-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v3105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x3 : Shape := ⟨3, ![4096, 32, 3]⟩
abbrev S4096 : Shape := ⟨1, ![4096]⟩
abbrev S32x64x64 : Shape := ⟨3, ![32, 64, 64]⟩
abbrev S32x150x64 : Shape := ⟨3, ![32, 150, 64]⟩
abbrev S32x128x128 : Shape := ⟨3, ![32, 128, 128]⟩
abbrev S32x150x128 : Shape := ⟨3, ![32, 150, 128]⟩
abbrev S32x256x256 : Shape := ⟨3, ![32, 256, 256]⟩
abbrev S32x150x256 : Shape := ⟨3, ![32, 150, 256]⟩
abbrev S32x512x512 : Shape := ⟨3, ![32, 512, 512]⟩
abbrev S32x150x512 : Shape := ⟨3, ![32, 150, 512]⟩
abbrev S128x64 : Shape := ⟨2, ![128, 64]⟩
abbrev S64x16 : Shape := ⟨2, ![64, 16]⟩
abbrev S_ : Shape := ⟨0, ![]⟩

class Facts : Prop where
  bcast_S_S4096x32x3 : S_.BroadcastsInDim S4096x32x3 (![] : Fin 0 → Fin S4096x32x3.rank)
  reducesTo_S4096x32x3_S_d0_1_2 : S4096x32x3.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S32x64x64 : S_.BroadcastsInDim S32x64x64 (![] : Fin 0 → Fin S32x64x64.rank)
  reducesTo_S32x64x64_S_d0_1_2 : S32x64x64.ReducesTo [0, 1, 2] S_
  bcast_S_S32x150x64 : S_.BroadcastsInDim S32x150x64 (![] : Fin 0 → Fin S32x150x64.rank)
  reducesTo_S32x150x64_S_d0_1_2 : S32x150x64.ReducesTo [0, 1, 2] S_
  bcast_S_S32x128x128 : S_.BroadcastsInDim S32x128x128 (![] : Fin 0 → Fin S32x128x128.rank)
  reducesTo_S32x128x128_S_d0_1_2 : S32x128x128.ReducesTo [0, 1, 2] S_
  bcast_S_S32x150x128 : S_.BroadcastsInDim S32x150x128 (![] : Fin 0 → Fin S32x150x128.rank)
  reducesTo_S32x150x128_S_d0_1_2 : S32x150x128.ReducesTo [0, 1, 2] S_
  bcast_S_S32x256x256 : S_.BroadcastsInDim S32x256x256 (![] : Fin 0 → Fin S32x256x256.rank)
  reducesTo_S32x256x256_S_d0_1_2 : S32x256x256.ReducesTo [0, 1, 2] S_
  bcast_S_S32x150x256 : S_.BroadcastsInDim S32x150x256 (![] : Fin 0 → Fin S32x150x256.rank)
  reducesTo_S32x150x256_S_d0_1_2 : S32x150x256.ReducesTo [0, 1, 2] S_
  bcast_S_S32x512x512 : S_.BroadcastsInDim S32x512x512 (![] : Fin 0 → Fin S32x512x512.rank)
  reducesTo_S32x512x512_S_d0_1_2 : S32x512x512.ReducesTo [0, 1, 2] S_
  bcast_S_S32x150x512 : S_.BroadcastsInDim S32x150x512 (![] : Fin 0 → Fin S32x150x512.rank)
  reducesTo_S32x150x512_S_d0_1_2 : S32x150x512.ReducesTo [0, 1, 2] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part8 {F : FTy → Type} [FloatOps F] (main_v133 : IVec S_ 1) (main_v136 : IVec S64x16 1) : IVec S_ 1 :=
  let main_c_53 : IVec S_ 1 := constantI S_ 1 1#1
  let main_v137 : IVec S_ 1 := (fun x v => Host.reduce IntOp.andi x v reducesTo_S64x16_S_d0_1 h_S_) main_v136 main_c_53
  let main_v138 : IVec S_ 1 := andi main_v133 main_v137
  main_v138

def fn_part7 {F : FTy → Type} [FloatOps F] (main_arg25 : FVec F S32x150x512 .f32) (main_arg26 : FVec F S128x64 .f32) (main_arg27 : FVec F S64x16 .f32) (main_v118 : IVec S_ 1) (main_v119 : FVec F S32x150x512 .f32) : IVec S_ 1 :=
  let main_cst_46 : FVec F S_ .f32 := constant S_ .f32 0x7F800000#32
  let main_v120 : FVec F S32x150x512 .f32 := broadcastInDim S32x150x512 ![] bcast_S_S32x150x512 main_cst_46
  let main_v121 : IVec S32x150x512 1 := cmpf .olt main_v119 main_v120
  let main_c_47 : IVec S_ 1 := constantI S_ 1 1#1
  let main_v122 : IVec S_ 1 := (fun x v => Host.reduce IntOp.andi x v reducesTo_S32x150x512_S_d0_1_2 h_S_) main_v121 main_c_47
  let main_v123 : IVec S_ 1 := andi main_v118 main_v122
  let main_v124 : FVec F S32x150x512 .f32 := Host.absf main_arg25
  let main_cst_48 : FVec F S_ .f32 := constant S_ .f32 0x7F800000#32
  let main_v125 : FVec F S32x150x512 .f32 := broadcastInDim S32x150x512 ![] bcast_S_S32x150x512 main_cst_48
  let main_v126 : IVec S32x150x512 1 := cmpf .olt main_v124 main_v125
  let main_c_49 : IVec S_ 1 := constantI S_ 1 1#1
  let main_v127 : IVec S_ 1 := (fun x v => Host.reduce IntOp.andi x v reducesTo_S32x150x512_S_d0_1_2 h_S_) main_v126 main_c_49
  let main_v128 : IVec S_ 1 := andi main_v123 main_v127
  let main_v129 : FVec F S128x64 .f32 := Host.absf main_arg26
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64x16 .f32 := Host.absf main_arg27
  let main_cst_52 : FVec F S_ .f32 := constant S_ .f32 0x7F800000#32
  let main_v135 : FVec F S64x16 .f32 := broadcastInDim S64x16 ![] bcast_S_S64x16 main_cst_52
  let main_v136 : IVec S64x16 1 := cmpf .olt main_v134 main_v135
  fn_part8 (F := F) main_v133 main_v136

def fn_part6 {F : FTy → Type} [FloatOps F] (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) (main_v98 : IVec S_ 1) (main_v101 : IVec S32x512x512 1) (main_c_39 : IVec S_ 1) : IVec S_ 1 :=
  let main_v102 : IVec S_ 1 := (fun x v => Host.reduce IntOp.andi x v reducesTo_S32x512x512_S_d0_1_2 h_S_) main_v101 main_c_39
  let main_v103 : IVec S_ 1 := andi main_v98 main_v102
  let main_v104 : FVec F S32x512x512 .f32 := Host.absf main_arg21
  let main_cst_40 : FVec F S_ .f32 := constant S_ .f32 0x7F800000#32
  let main_v105 : FVec F S32x512x512 .f32 := broadcastInDim S32x512x512 ![] bcast_S_S32x512x512 main_cst_40
  let main_v106 : IVec S32x512x512 1 := cmpf .olt main_v104 main_v105
  let main_c_41 : IVec S_ 1 := constantI S_ 1 1#1
  let main_v107 : IVec S_ 1 := (fun x v => Host.reduce IntOp.andi x v reducesTo_S32x512x512_S_d0_1_2 h_S_) main_v106 main_c_41
  let main_v108 : IVec S_ 1 := andi main_v103 main_v107
  let main_v109 : FVec F S32x150x512 .f32 := Host.absf main_arg22
  let main_cst_42 : FVec F S_ .f32 := constant S_ .f32 0x7F800000#32
  let main_v110 : FVec F S32x150x512 .f32 := broadcastInDim S32x150x512 ![] bcast_S_S32x150x512 main_cst_42
  let main_v111 : IVec S32x150x512 1 := cmpf .olt main_v109 main_v110
  let main_c_43 : IVec S_ 1 := constantI S_ 1 1#1
  let main_v112 : IVec S_ 1 := (fun x v => Host.reduce IntOp.andi x v reducesTo_S32x150x512_S_d0_1_2 h_S_) main_v111 main_c_43
  let main_v113 : IVec S_ 1 := andi main_v108 main_v112
  let main_v114 : FVec F S32x512x512 .f32 := Host.absf main_arg23
  let main_cst_44 : FVec F S_ .f32 := constant S_ .f32 0x7F800000#32
  let main_v115 : FVec F S32x512x512 .f32 := broadcastInDim S32x512x512 ![] bcast_S_S32x512x512 main_cst_44
  let main_v116 : IVec S32x512x512 1 := cmpf .olt main_v114 main_v115
  let main_c_45 : IVec S_ 1 := constantI S_ 1 1#1
  let main_v117 : IVec S_ 1 := (fun x v => Host.reduce IntOp.andi x v reducesTo_S32x512x512_S_d0_1_2 h_S_) main_v116 main_c_45
  let main_v118 : IVec S_ 1 := andi main_v113 main_v117
  let main_v119 : FVec F S32x150x512 .f32 := Host.absf main_arg24
  fn_part7 (F := F) main_arg25 main_arg26 main_arg27 main_v118 main_v119

def fn_part5 {F : FTy → Type} [FloatOps F] (main_arg18 : FVec F S32x150x256 .f32) (main_arg19 : FVec F S32x150x256 .f32) (main_arg20 : FVec F S32x512x512 .f32) (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) (main_v83 : IVec S_ 1) (main_v84 : FVec F S32x256x256 .f32) (main_cst_32 : FVec F S_ .f32) : IVec S_ 1 :=
  let main_v85 : FVec F S32x256x256 .f32 := broadcastInDim S32x256x256 ![] bcast_S_S32x256x256 main_cst_32
  let main_v86 : IVec S32x256x256 1 := cmpf .olt main_v84 main_v85
  let main_c_33 : IVec S_ 1 := constantI S_ 1 1#1
  let main_v87 : IVec S_ 1 := (fun x v => Host.reduce IntOp.andi x v reducesTo_S32x256x256_S_d0_1_2 h_S_) main_v86 main_c_33
  let main_v88 : IVec S_ 1 := andi main_v83 main_v87
  let main_v89 : FVec F S32x150x256 .f32 := Host.absf main_arg18
  let main_cst_34 : FVec F S_ .f32 := constant S_ .f32 0x7F800000#32
  let main_v90 : FVec F S32x150x256 .f32 := broadcastInDim S32x150x256 ![] bcast_S_S32x150x256 main_cst_34
  let main_v91 : IVec S32x150x256 1 := cmpf .olt main_v89 main_v90
  let main_c_35 : IVec S_ 1 := constantI S_ 1 1#1
  let main_v92 : IVec S_ 1 := (fun x v => Host.reduce IntOp.andi x v reducesTo_S32x150x256_S_d0_1_2 h_S_) main_v91 main_c_35
  let main_v93 : IVec S_ 1 := andi main_v88 main_v92
  let main_v94 : FVec F S32x150x256 .f32 := Host.absf main_arg19
  let main_cst_36 : FVec F S_ .f32 := constant S_ .f32 0x7F800000#32
  let main_v95 : FVec F S32x150x256 .f32 := broadcastInDim S32x150x256 ![] bcast_S_S32x150x256 main_cst_36
  let main_v96 : IVec S32x150x256 1 := cmpf .olt main_v94 main_v95
  let main_c_37 : IVec S_ 1 := constantI S_ 1 1#1
  let main_v97 : IVec S_ 1 := (fun x v => Host.reduce IntOp.andi x v reducesTo_S32x150x256_S_d0_1_2 h_S_) main_v96 main_c_37
  let main_v98 : IVec S_ 1 := andi main_v93 main_v97
  let main_v99 : FVec F S32x512x512 .f32 := Host.absf main_arg20
  let main_cst_38 : FVec F S_ .f32 := constant S_ .f32 0x7F800000#32
  let main_v100 : FVec F S32x512x512 .f32 := broadcastInDim S32x512x512 ![] bcast_S_S32x512x512 main_cst_38
  let main_v101 : IVec S32x512x512 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S32x256x256 .f32) (main_arg15 : FVec F S32x256x256 .f32) (main_arg16 : FVec F S32x150x256 .f32) (main_arg17 : FVec F S32x256x256 .f32) (main_arg18 : FVec F S32x150x256 .f32) (main_arg19 : FVec F S32x150x256 .f32) (main_arg20 : FVec F S32x512x512 .f32) (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) (main_v63 : IVec S_ 1) (main_v67 : IVec S_ 1) : IVec S_ 1 :=
  let main_v68 : IVec S_ 1 := andi main_v63 main_v67
  let main_v69 : FVec F S32x256x256 .f32 := Host.absf main_arg14
  let main_cst_26 : FVec F S_ .f32 := constant S_ .f32 0x7F800000#32
  let main_v70 : FVec F S32x256x256 .f32 := broadcastInDim S32x256x256 ![] bcast_S_S32x256x256 main_cst_26
  let main_v71 : IVec S32x256x256 1 := cmpf .olt main_v69 main_v70
  let main_c_27 : IVec S_ 1 := constantI S_ 1 1#1
  let main_v72 : IVec S_ 1 := (fun x v => Host.reduce IntOp.andi x v reducesTo_S32x256x256_S_d0_1_2 h_S_) main_v71 main_c_27
  let main_v73 : IVec S_ 1 := andi main_v68 main_v72
  let main_v74 : FVec F S32x256x256 .f32 := Host.absf main_arg15
  let main_cst_28 : FVec F S_ .f32 := constant S_ .f32 0x7F800000#32
  let main_v75 : FVec F S32x256x256 .f32 := broadcastInDim S32x256x256 ![] bcast_S_S32x256x256 main_cst_28
  let main_v76 : IVec S32x256x256 1 := cmpf .olt main_v74 main_v75
  let main_c_29 : IVec S_ 1 := constantI S_ 1 1#1
  let main_v77 : IVec S_ 1 := (fun x v => Host.reduce IntOp.andi x v reducesTo_S32x256x256_S_d0_1_2 h_S_) main_v76 main_c_29
  let main_v78 : IVec S_ 1 := andi main_v73 main_v77
  let main_v79 : FVec F S32x150x256 .f32 := Host.absf main_arg16
  let main_cst_30 : FVec F S_ .f32 := constant S_ .f32 0x7F800000#32
  let main_v80 : FVec F S32x150x256 .f32 := broadcastInDim S32x150x256 ![] bcast_S_S32x150x256 main_cst_30
  let main_v81 : IVec S32x150x256 1 := cmpf .olt main_v79 main_v80
  let main_c_31 : IVec S_ 1 := constantI S_ 1 1#1
  let main_v82 : IVec S_ 1 := (fun x v => Host.reduce IntOp.andi x v reducesTo_S32x150x256_S_d0_1_2 h_S_) main_v81 main_c_31
  let main_v83 : IVec S_ 1 := andi main_v78 main_v82
  let main_v84 : FVec F S32x256x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S32x128x128 .f32) (main_arg12 : FVec F S32x150x128 .f32) (main_arg13 : FVec F S32x150x128 .f32) (main_arg14 : FVec F S32x256x256 .f32) (main_arg15 : FVec F S32x256x256 .f32) (main_arg16 : FVec F S32x150x256 .f32) (main_arg17 : FVec F S32x256x256 .f32) (main_arg18 : FVec F S32x150x256 .f32) (main_arg19 : FVec F S32x150x256 .f32) (main_arg20 : FVec F S32x512x512 .f32) (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) (main_v48 : IVec S_ 1) (main_v49 : FVec F S32x150x128 .f32) (main_v50 : FVec F S32x150x128 .f32) : IVec S_ 1 :=
  let main_v51 : IVec S32x150x128 1 := cmpf .olt main_v49 main_v50
  let main_c_19 : IVec S_ 1 := constantI S_ 1 1#1
  let main_v52 : IVec S_ 1 := (fun x v => Host.reduce IntOp.andi x v reducesTo_S32x150x128_S_d0_1_2 h_S_) main_v51 main_c_19
  let main_v53 : IVec S_ 1 := andi main_v48 main_v52
  let main_v54 : FVec F S32x128x128 .f32 := Host.absf main_arg11
  let main_cst_20 : FVec F S_ .f32 := constant S_ .f32 0x7F800000#32
  let main_v55 : FVec F S32x128x128 .f32 := broadcastInDim S32x128x128 ![] bcast_S_S32x128x128 main_cst_20
  let main_v56 : IVec S32x128x128 1 := cmpf .olt main_v54 main_v55
  let main_c_21 : IVec S_ 1 := constantI S_ 1 1#1
  let main_v57 : IVec S_ 1 := (fun x v => Host.reduce IntOp.andi x v reducesTo_S32x128x128_S_d0_1_2 h_S_) main_v56 main_c_21
  let main_v58 : IVec S_ 1 := andi main_v53 main_v57
  let main_v59 : FVec F S32x150x128 .f32 := Host.absf main_arg12
  let main_cst_22 : FVec F S_ .f32 := constant S_ .f32 0x7F800000#32
  let main_v60 : FVec F S32x150x128 .f32 := broadcastInDim S32x150x128 ![] bcast_S_S32x150x128 main_cst_22
  let main_v61 : IVec S32x150x128 1 := cmpf .olt main_v59 main_v60
  let main_c_23 : IVec S_ 1 := constantI S_ 1 1#1
  let main_v62 : IVec S_ 1 := (fun x v => Host.reduce IntOp.andi x v reducesTo_S32x150x128_S_d0_1_2 h_S_) main_v61 main_c_23
  let main_v63 : IVec S_ 1 := andi main_v58 main_v62
  let main_v64 : FVec F S32x150x128 .f32 := Host.absf main_arg13
  let main_cst_24 : FVec F S_ .f32 := constant S_ .f32 0x7F800000#32
  let main_v65 : FVec F S32x150x128 .f32 := broadcastInDim S32x150x128 ![] bcast_S_S32x150x128 main_cst_24
  let main_v66 : IVec S32x150x128 1 := cmpf .olt main_v64 main_v65
  let main_c_25 : IVec S_ 1 := constantI S_ 1 1#1
  let main_v67 : IVec S_ 1 := (fun x v => Host.reduce IntOp.andi x v reducesTo_S32x150x128_S_d0_1_2 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S32x150x64 .f32) (main_arg8 : FVec F S32x128x128 .f32) (main_arg9 : FVec F S32x128x128 .f32) (main_arg10 : FVec F S32x150x128 .f32) (main_arg11 : FVec F S32x128x128 .f32) (main_arg12 : FVec F S32x150x128 .f32) (main_arg13 : FVec F S32x150x128 .f32) (main_arg14 : FVec F S32x256x256 .f32) (main_arg15 : FVec F S32x256x256 .f32) (main_arg16 : FVec F S32x150x256 .f32) (main_arg17 : FVec F S32x256x256 .f32) (main_arg18 : FVec F S32x150x256 .f32) (main_arg19 : FVec F S32x150x256 .f32) (main_arg20 : FVec F S32x512x512 .f32) (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) (main_v33 : IVec S_ 1) : IVec S_ 1 :=
  let main_v34 : FVec F S32x150x64 .f32 := Host.absf main_arg7
  let main_cst_12 : FVec F S_ .f32 := constant S_ .f32 0x7F800000#32
  let main_v35 : FVec F S32x150x64 .f32 := broadcastInDim S32x150x64 ![] bcast_S_S32x150x64 main_cst_12
  let main_v36 : IVec S32x150x64 1 := cmpf .olt main_v34 main_v35
  let main_c_13 : IVec S_ 1 := constantI S_ 1 1#1
  let main_v37 : IVec S_ 1 := (fun x v => Host.reduce IntOp.andi x v reducesTo_S32x150x64_S_d0_1_2 h_S_) main_v36 main_c_13
  let main_v38 : IVec S_ 1 := andi main_v33 main_v37
  let main_v39 : FVec F S32x128x128 .f32 := Host.absf main_arg8
  let main_cst_14 : FVec F S_ .f32 := constant S_ .f32 0x7F800000#32
  let main_v40 : FVec F S32x128x128 .f32 := broadcastInDim S32x128x128 ![] bcast_S_S32x128x128 main_cst_14
  let main_v41 : IVec S32x128x128 1 := cmpf .olt main_v39 main_v40
  let main_c_15 : IVec S_ 1 := constantI S_ 1 1#1
  let main_v42 : IVec S_ 1 := (fun x v => Host.reduce IntOp.andi x v reducesTo_S32x128x128_S_d0_1_2 h_S_) main_v41 main_c_15
  let main_v43 : IVec S_ 1 := andi main_v38 main_v42
  let main_v44 : FVec F S32x128x128 .f32 := Host.absf main_arg9
  let main_cst_16 : FVec F S_ .f32 := constant S_ .f32 0x7F800000#32
  let main_v45 : FVec F S32x128x128 .f32 := broadcastInDim S32x128x128 ![] bcast_S_S32x128x128 main_cst_16
  let main_v46 : IVec S32x128x128 1 := cmpf .olt main_v44 main_v45
  let main_c_17 : IVec S_ 1 := constantI S_ 1 1#1
  let main_v47 : IVec S_ 1 := (fun x v => Host.reduce IntOp.andi x v reducesTo_S32x128x128_S_d0_1_2 h_S_) main_v46 main_c_17
  let main_v48 : IVec S_ 1 := andi main_v43 main_v47
  let main_v49 : FVec F S32x150x128 .f32 := Host.absf main_arg10
  let main_cst_18 : FVec F S_ .f32 := constant S_ .f32 0x7F800000#32
  let main_v50 : FVec F S32x150x128 .f32 := broadcastInDim S32x150x128 ![] bcast_S_S32x150x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S32x150x64 .f32) (main_arg5 : FVec F S32x64x64 .f32) (main_arg6 : FVec F S32x150x64 .f32) (main_arg7 : FVec F S32x150x64 .f32) (main_arg8 : FVec F S32x128x128 .f32) (main_arg9 : FVec F S32x128x128 .f32) (main_arg10 : FVec F S32x150x128 .f32) (main_arg11 : FVec F S32x128x128 .f32) (main_arg12 : FVec F S32x150x128 .f32) (main_arg13 : FVec F S32x150x128 .f32) (main_arg14 : FVec F S32x256x256 .f32) (main_arg15 : FVec F S32x256x256 .f32) (main_arg16 : FVec F S32x150x256 .f32) (main_arg17 : FVec F S32x256x256 .f32) (main_arg18 : FVec F S32x150x256 .f32) (main_arg19 : FVec F S32x150x256 .f32) (main_arg20 : FVec F S32x512x512 .f32) (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) (main_v13 : IVec S_ 1) (main_v16 : IVec S32x64x64 1) : IVec S_ 1 :=
  let main_c_5 : IVec S_ 1 := constantI S_ 1 1#1
  let main_v17 : IVec S_ 1 := (fun x v => Host.reduce IntOp.andi x v reducesTo_S32x64x64_S_d0_1_2 h_S_) main_v16 main_c_5
  let main_v18 : IVec S_ 1 := andi main_v13 main_v17
  let main_v19 : FVec F S32x150x64 .f32 := Host.absf main_arg4
  let main_cst_6 : FVec F S_ .f32 := constant S_ .f32 0x7F800000#32
  let main_v20 : FVec F S32x150x64 .f32 := broadcastInDim S32x150x64 ![] bcast_S_S32x150x64 main_cst_6
  let main_v21 : IVec S32x150x64 1 := cmpf .olt main_v19 main_v20
  let main_c_7 : IVec S_ 1 := constantI S_ 1 1#1
  let main_v22 : IVec S_ 1 := (fun x v => Host.reduce IntOp.andi x v reducesTo_S32x150x64_S_d0_1_2 h_S_) main_v21 main_c_7
  let main_v23 : IVec S_ 1 := andi main_v18 main_v22
  let main_v24 : FVec F S32x64x64 .f32 := Host.absf main_arg5
  let main_cst_8 : FVec F S_ .f32 := constant S_ .f32 0x7F800000#32
  let main_v25 : FVec F S32x64x64 .f32 := broadcastInDim S32x64x64 ![] bcast_S_S32x64x64 main_cst_8
  let main_v26 : IVec S32x64x64 1 := cmpf .olt main_v24 main_v25
  let main_c_9 : IVec S_ 1 := constantI S_ 1 1#1
  let main_v27 : IVec S_ 1 := (fun x v => Host.reduce IntOp.andi x v reducesTo_S32x64x64_S_d0_1_2 h_S_) main_v26 main_c_9
  let main_v28 : IVec S_ 1 := andi main_v23 main_v27
  let main_v29 : FVec F S32x150x64 .f32 := Host.absf main_arg6
  let main_cst_10 : FVec F S_ .f32 := constant S_ .f32 0x7F800000#32
  let main_v30 : FVec F S32x150x64 .f32 := broadcastInDim S32x150x64 ![] bcast_S_S32x150x64 main_cst_10
  let main_v31 : IVec S32x150x64 1 := cmpf .olt main_v29 main_v30
  let main_c_11 : IVec S_ 1 := constantI S_ 1 1#1
  let main_v32 : IVec S_ 1 := (fun x v => Host.reduce IntOp.andi x v reducesTo_S32x150x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S4096x32x3 .f32) (main_arg1 : FVec F S4096 .f32) (main_arg2 : FVec F S32x64x64 .f32) (main_arg3 : FVec F S32x64x64 .f32) (main_arg4 : FVec F S32x150x64 .f32) (main_arg5 : FVec F S32x64x64 .f32) (main_arg6 : FVec F S32x150x64 .f32) (main_arg7 : FVec F S32x150x64 .f32) (main_arg8 : FVec F S32x128x128 .f32) (main_arg9 : FVec F S32x128x128 .f32) (main_arg10 : FVec F S32x150x128 .f32) (main_arg11 : FVec F S32x128x128 .f32) (main_arg12 : FVec F S32x150x128 .f32) (main_arg13 : FVec F S32x150x128 .f32) (main_arg14 : FVec F S32x256x256 .f32) (main_arg15 : FVec F S32x256x256 .f32) (main_arg16 : FVec F S32x150x256 .f32) (main_arg17 : FVec F S32x256x256 .f32) (main_arg18 : FVec F S32x150x256 .f32) (main_arg19 : FVec F S32x150x256 .f32) (main_arg20 : FVec F S32x512x512 .f32) (main_arg21 : FVec F S32x512x512 .f32) (main_arg22 : FVec F S32x150x512 .f32) (main_arg23 : FVec F S32x512x512 .f32) (main_arg24 : FVec F S32x150x512 .f32) (main_arg25 : FVec F S32x150x512 .f32) (main_arg26 : FVec F S128x64 .f32) (main_arg27 : FVec F S64x16 .f32) : IVec S_ 1 :=
  let main_v0 : FVec F S4096x32x3 .f32 := Host.absf main_arg0
  let main_cst : FVec F S_ .f32 := constant S_ .f32 0x7F800000#32
  let main_v1 : FVec F S4096x32x3 .f32 := broadcastInDim S4096x32x3 ![] bcast_S_S4096x32x3 main_cst
  let main_v2 : IVec S4096x32x3 1 := cmpf .olt main_v0 main_v1
  let main_c : IVec S_ 1 := constantI S_ 1 1#1
  let main_v3 : IVec S_ 1 := (fun x v => Host.reduce IntOp.andi x v reducesTo_S4096x32x3_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S32x64x64 .f32 := Host.absf main_arg2
  let main_cst_2 : FVec F S_ .f32 := constant S_ .f32 0x7F800000#32
  let main_v10 : FVec F S32x64x64 .f32 := broadcastInDim S32x64x64 ![] bcast_S_S32x64x64 main_cst_2
  let main_v11 : IVec S32x64x64 1 := cmpf .olt main_v9 main_v10
  let main_c_3 : IVec S_ 1 := constantI S_ 1 1#1
  let main_v12 : IVec S_ 1 := (fun x v => Host.reduce IntOp.andi x v reducesTo_S32x64x64_S_d0_1_2 h_S_) main_v11 main_c_3
  let main_v13 : IVec S_ 1 := andi main_v8 main_v12
  let main_v14 : FVec F S32x64x64 .f32 := Host.absf main_arg3
  let main_cst_4 : FVec F S_ .f32 := constant S_ .f32 0x7F800000#32
  let main_v15 : FVec F S32x64x64 .f32 := broadcastInDim S32x64x64 ![] bcast_S_S32x64x64 main_cst_4
  let main_v16 : IVec S32x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S4096x32x3 : Shape := ⟨3, ![4096, 32, 3]⟩
abbrev S4096 : Shape := ⟨1, ![4096]⟩
abbrev S32x64x64 : Shape := ⟨3, ![32, 64, 64]⟩
abbrev S32x150x64 : Shape := ⟨3, ![32, 150, 64]⟩
abbrev S32x128x128 : Shape := ⟨3, ![32, 128, 128]⟩
abbrev S32x150x128 : Shape := ⟨3, ![32, 150, 128]⟩
abbrev S32x256x256 : Shape := ⟨3, ![32, 256, 256]⟩
abbrev S32x150x256 : Shape := ⟨3, ![32, 150, 256]⟩
abbrev S32x512x512 : Shape := ⟨3, ![32, 512, 512]⟩
abbrev S32x150x512 : Shape := ⟨3, ![32, 150, 512]⟩
abbrev S128x64 : Shape := ⟨2, ![128, 64]⟩
abbrev S64x16 : Shape := ⟨2, ![64, 16]⟩
abbrev S2 : Shape := ⟨1, ![2]⟩
abbrev S_ : Shape := ⟨0, ![]⟩
abbrev S4096x1 : Shape := ⟨2, ![4096, 1]⟩
abbrev S4096x32 : Shape := ⟨2, ![4096, 32]⟩
abbrev S4096x32x1 : Shape := ⟨3, ![4096, 32, 1]⟩
abbrev S4096x32x4 : Shape := ⟨3, ![4096, 32, 4]⟩
abbrev S131072x4 : Shape := ⟨2, ![131072, 4]⟩
abbrev S2x1 : Shape := ⟨2, ![2, 1]⟩
abbrev S131072x2 : Shape := ⟨2, ![131072, 2]⟩
abbrev S131072x1 : Shape := ⟨2, ![131072, 1]⟩
abbrev S131072 : Shape := ⟨1, ![131072]⟩
abbrev S32x131072 : Shape := ⟨2, ![32, 131072]⟩
abbrev S1x131072 : Shape := ⟨2, ![1, 131072]⟩
abbrev S131072x32 : Shape := ⟨2, ![131072, 32]⟩
abbrev S131072x16 : Shape := ⟨2, ![131072, 16]⟩
abbrev S1024x32 : Shape := ⟨2, ![1024, 32]⟩
abbrev S1024x16 : Shape := ⟨2, ![1024, 16]⟩
abbrev S32x64 : Shape := ⟨2, ![32, 64]⟩
abbrev S1024x64 : Shape := ⟨2, ![1024, 64]⟩
abbrev S1024x15 : Shape := ⟨2, ![1024, 15]⟩
abbrev S1024x1 : Shape := ⟨2, ![1024, 1]⟩

abbrev nBuf : Space → Nat
  | .hbm => 4552
  | .vmem => 52
  | .smem => 0
  | _ => 0

abbrev hbmTy0_0 (i : Nat) : BufTy := match i % 128 with
  | 0 => ⟨S4096x32x3, .f32⟩
  | 1 => ⟨S4096, .f32⟩
  | 2 => ⟨S32x64x64, .f32⟩
  | 3 => ⟨S32x64x64, .f32⟩
  | 4 => ⟨S32x150x64, .f32⟩
  | 5 => ⟨S32x64x64, .f32⟩
  | 6 => ⟨S32x150x64, .f32⟩
  | 7 => ⟨S32x150x64, .f32⟩
  | 8 => ⟨S32x128x128, .f32⟩
  | 9 => ⟨S32x128x128, .f32⟩
  | 10 => ⟨S32x150x128, .f32⟩
  | 11 => ⟨S32x128x128, .f32⟩
  | 12 => ⟨S32x150x128, .f32⟩
  | 13 => ⟨S32x150x128, .f32⟩
  | 14 => ⟨S32x256x256, .f32⟩
  | 15 => ⟨S32x256x256, .f32⟩
  | 16 => ⟨S32x150x256, .f32⟩
  | 17 => ⟨S32x256x256, .f32⟩
  | 18 => ⟨S32x150x256, .f32⟩
  | 19 => ⟨S32x150x256, .f32⟩
  | 20 => ⟨S32x512x512, .f32⟩
  | 21 => ⟨S32x512x512, .f32⟩
  | 22 => ⟨S32x150x512, .f32⟩
  | 23 => ⟨S32x512x512, .f32⟩
  | 24 => ⟨S32x150x512, .f32⟩
  | 25 => ⟨S32x150x512, .f32⟩
  | 26 => ⟨S128x64, .f32⟩
  | 27 => ⟨S64x16, .f32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .f32⟩
  | 53 => ⟨S4096x32x3, .f32⟩
  | 54 => ⟨S4096x32x3, .f32⟩
  | 55 => ⟨S_, .f32⟩
  | 56 => ⟨S4096x32x3, .f32⟩
  | 57 => ⟨S4096x32x3, .f32⟩
  | 58 => ⟨S4096x1, .f32⟩
  | 59 => ⟨S4096x32, .f32⟩
  | 60 => ⟨S4096x32x1, .f32⟩
  | 61 => ⟨S4096x32x4, .f32⟩
  | 62 => ⟨S131072x4, .f32⟩
  | 63 => ⟨S_, .i32⟩
  | 64 => ⟨S2, .i32⟩
  | 65 => ⟨S2, .i1⟩
  | 66 => ⟨S_, .i32⟩
  | 67 => ⟨S2, .i32⟩
  | 68 => ⟨S2, .i32⟩
  | 69 => ⟨S2, .i32⟩
  | 70 => ⟨S2x1, .i32⟩
  | 71 => ⟨S131072x2, .f32⟩
  | 72 => ⟨S131072x1, .f32⟩
  | 73 => ⟨S131072, .f32⟩
  | 74 => ⟨S_, .f32⟩
  | 75 => ⟨S131072, .f32⟩
  | 76 => ⟨S131072, .f32⟩
  | 77 => ⟨S_, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072x1, .f32⟩
  | 84 => ⟨S131072, .f32⟩
  | 85 => ⟨S_, .f32⟩
  | 86 => ⟨S131072, .f32⟩
  | 87 => ⟨S131072, .f32⟩
  | 88 => ⟨S_, .f32⟩
  | 89 => ⟨S131072, .f32⟩
  | 90 => ⟨S131072, .f32⟩
  | 91 => ⟨S_, .f32⟩
  | 92 => ⟨S131072, .f32⟩
  | 93 => ⟨S131072, .f32⟩
  | 94 => ⟨S131072, .f32⟩
  | 95 => ⟨S131072, .f32⟩
  | 96 => ⟨S131072, .f32⟩
  | 97 => ⟨S131072, .f32⟩
  | 98 => ⟨S131072, .i32⟩
  | 99 => ⟨S_, .i32⟩
  | 100 => ⟨S_, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i32⟩
  | 107 => ⟨S_, .i32⟩
  | 108 => ⟨S131072, .i32⟩
  | 109 => ⟨S131072, .i32⟩
  | 110 => ⟨S_, .i32⟩
  | 111 => ⟨S_, .i32⟩
  | 112 => ⟨S_, .i32⟩
  | 113 => ⟨S131072, .i32⟩
  | 114 => ⟨S131072, .i32⟩
  | 115 => ⟨S_, .i32⟩
  | 116 => ⟨S131072, .i32⟩
  | 117 => ⟨S131072, .i32⟩
  | 118 => ⟨S131072, .i32⟩
  | 119 => ⟨S_, .i32⟩
  | 120 => ⟨S_, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i32⟩
  | 127 => ⟨S_, .i32⟩
  | _ => ⟨S4096x32x3, .f32⟩

abbrev hbmTy0_1 (i : Nat) : BufTy := match i % 128 with
  | 0 => ⟨S131072, .i32⟩
  | 1 => ⟨S131072, .i32⟩
  | 2 => ⟨S_, .i32⟩
  | 3 => ⟨S_, .i32⟩
  | 4 => ⟨S_, .i32⟩
  | 5 => ⟨S131072, .i32⟩
  | 6 => ⟨S131072, .i32⟩
  | 7 => ⟨S_, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S131072x1, .i32⟩
  | 26 => ⟨S131072x2, .i32⟩
  | 27 => ⟨S32x131072, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x1, .i32⟩
  | 44 => ⟨S131072x2, .i32⟩
  | 45 => ⟨S32x131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x1, .i32⟩
  | 62 => ⟨S131072x2, .i32⟩
  | 63 => ⟨S32x131072, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S32x131072, .f32⟩
  | 82 => ⟨S_, .f32⟩
  | 83 => ⟨S131072, .f32⟩
  | 84 => ⟨S131072, .f32⟩
  | 85 => ⟨S1x131072, .f32⟩
  | 86 => ⟨S32x131072, .f32⟩
  | 87 => ⟨S32x131072, .f32⟩
  | 88 => ⟨S_, .f32⟩
  | 89 => ⟨S131072, .f32⟩
  | 90 => ⟨S131072, .f32⟩
  | 91 => ⟨S1x131072, .f32⟩
  | 92 => ⟨S32x131072, .f32⟩
  | 93 => ⟨S32x131072, .f32⟩
  | 94 => ⟨S1x131072, .f32⟩
  | 95 => ⟨S32x131072, .f32⟩
  | 96 => ⟨S32x131072, .f32⟩
  | 97 => ⟨S_, .f32⟩
  | 98 => ⟨S131072, .f32⟩
  | 99 => ⟨S131072, .f32⟩
  | 100 => ⟨S1x131072, .f32⟩
  | 101 => ⟨S32x131072, .f32⟩
  | 102 => ⟨S32x131072, .f32⟩
  | 103 => ⟨S32x131072, .f32⟩
  | 104 => ⟨S_, .f32⟩
  | 105 => ⟨S131072, .f32⟩
  | 106 => ⟨S131072, .f32⟩
  | 107 => ⟨S1x131072, .f32⟩
  | 108 => ⟨S32x131072, .f32⟩
  | 109 => ⟨S32x131072, .f32⟩
  | 110 => ⟨S1x131072, .f32⟩
  | 111 => ⟨S32x131072, .f32⟩
  | 112 => ⟨S32x131072, .f32⟩
  | 113 => ⟨S32x131072, .f32⟩
  | 114 => ⟨S1x131072, .f32⟩
  | 115 => ⟨S32x131072, .f32⟩
  | 116 => ⟨S32x131072, .f32⟩
  | 117 => ⟨S1x131072, .f32⟩
  | 118 => ⟨S32x131072, .f32⟩
  | 119 => ⟨S32x131072, .f32⟩
  | 120 => ⟨S32x131072, .f32⟩
  | 121 => ⟨S131072x32, .f32⟩
  | 122 => ⟨S_, .i32⟩
  | 123 => ⟨S2, .i32⟩
  | 124 => ⟨S2, .i1⟩
  | 125 => ⟨S_, .i32⟩
  | 126 => ⟨S2, .i32⟩
  | 127 => ⟨S2, .i32⟩
  | _ => ⟨S4096x32x3, .f32⟩

abbrev hbmTy0_2 (i : Nat) : BufTy := match i % 128 with
  | 0 => ⟨S2, .i32⟩
  | 1 => ⟨S2x1, .i32⟩
  | 2 => ⟨S131072x2, .f32⟩
  | 3 => ⟨S131072x1, .f32⟩
  | 4 => ⟨S131072, .f32⟩
  | 5 => ⟨S_, .f32⟩
  | 6 => ⟨S131072, .f32⟩
  | 7 => ⟨S131072, .f32⟩
  | 8 => ⟨S_, .f32⟩
  | 9 => ⟨S131072, .f32⟩
  | 10 => ⟨S131072, .f32⟩
  | 11 => ⟨S_, .f32⟩
  | 12 => ⟨S131072, .f32⟩
  | 13 => ⟨S131072, .f32⟩
  | 14 => ⟨S131072x1, .f32⟩
  | 15 => ⟨S131072, .f32⟩
  | 16 => ⟨S_, .f32⟩
  | 17 => ⟨S131072, .f32⟩
  | 18 => ⟨S131072, .f32⟩
  | 19 => ⟨S_, .f32⟩
  | 20 => ⟨S131072, .f32⟩
  | 21 => ⟨S131072, .f32⟩
  | 22 => ⟨S_, .f32⟩
  | 23 => ⟨S131072, .f32⟩
  | 24 => ⟨S131072, .f32⟩
  | 25 => ⟨S131072, .f32⟩
  | 26 => ⟨S131072, .f32⟩
  | 27 => ⟨S131072, .f32⟩
  | 28 => ⟨S131072, .f32⟩
  | 29 => ⟨S131072, .i32⟩
  | 30 => ⟨S_, .i32⟩
  | 31 => ⟨S_, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i32⟩
  | 38 => ⟨S_, .i32⟩
  | 39 => ⟨S131072, .i32⟩
  | 40 => ⟨S131072, .i32⟩
  | 41 => ⟨S_, .i32⟩
  | 42 => ⟨S_, .i32⟩
  | 43 => ⟨S_, .i32⟩
  | 44 => ⟨S131072, .i32⟩
  | 45 => ⟨S131072, .i32⟩
  | 46 => ⟨S_, .i32⟩
  | 47 => ⟨S131072, .i32⟩
  | 48 => ⟨S131072, .i32⟩
  | 49 => ⟨S131072, .i32⟩
  | 50 => ⟨S_, .i32⟩
  | 51 => ⟨S_, .i32⟩
  | 52 => ⟨S_, .i32⟩
  | 53 => ⟨S131072, .i32⟩
  | 54 => ⟨S131072, .i32⟩
  | 55 => ⟨S_, .i32⟩
  | 56 => ⟨S131072, .i32⟩
  | 57 => ⟨S131072, .i32⟩
  | 58 => ⟨S_, .i32⟩
  | 59 => ⟨S131072, .i32⟩
  | 60 => ⟨S131072, .i32⟩
  | 61 => ⟨S_, .i32⟩
  | 62 => ⟨S_, .i32⟩
  | 63 => ⟨S_, .i32⟩
  | 64 => ⟨S131072, .i32⟩
  | 65 => ⟨S131072, .i32⟩
  | 66 => ⟨S_, .i32⟩
  | 67 => ⟨S131072, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x1, .i32⟩
  | 85 => ⟨S131072x2, .i32⟩
  | 86 => ⟨S32x131072, .f32⟩
  | 87 => ⟨S_, .i32⟩
  | 88 => ⟨S131072, .i32⟩
  | 89 => ⟨S131072, .i1⟩
  | 90 => ⟨S_, .i32⟩
  | 91 => ⟨S131072, .i32⟩
  | 92 => ⟨S131072, .i32⟩
  | 93 => ⟨S131072, .i32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072x1, .i32⟩
  | 103 => ⟨S131072x2, .i32⟩
  | 104 => ⟨S32x131072, .f32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x1, .i32⟩
  | 121 => ⟨S131072x2, .i32⟩
  | 122 => ⟨S32x131072, .f32⟩
  | 123 => ⟨S_, .i32⟩
  | 124 => ⟨S131072, .i32⟩
  | 125 => ⟨S131072, .i1⟩
  | 126 => ⟨S_, .i32⟩
  | 127 => ⟨S131072, .i32⟩
  | _ => ⟨S4096x32x3, .f32⟩

abbrev hbmTy0_3 (i : Nat) : BufTy := match i % 128 with
  | 0 => ⟨S131072, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i32⟩
  | 8 => ⟨S131072, .i32⟩
  | 9 => ⟨S131072x1, .i32⟩
  | 10 => ⟨S131072x1, .i32⟩
  | 11 => ⟨S131072x2, .i32⟩
  | 12 => ⟨S32x131072, .f32⟩
  | 13 => ⟨S_, .f32⟩
  | 14 => ⟨S131072, .f32⟩
  | 15 => ⟨S131072, .f32⟩
  | 16 => ⟨S1x131072, .f32⟩
  | 17 => ⟨S32x131072, .f32⟩
  | 18 => ⟨S32x131072, .f32⟩
  | 19 => ⟨S_, .f32⟩
  | 20 => ⟨S131072, .f32⟩
  | 21 => ⟨S131072, .f32⟩
  | 22 => ⟨S1x131072, .f32⟩
  | 23 => ⟨S32x131072, .f32⟩
  | 24 => ⟨S32x131072, .f32⟩
  | 25 => ⟨S1x131072, .f32⟩
  | 26 => ⟨S32x131072, .f32⟩
  | 27 => ⟨S32x131072, .f32⟩
  | 28 => ⟨S_, .f32⟩
  | 29 => ⟨S131072, .f32⟩
  | 30 => ⟨S131072, .f32⟩
  | 31 => ⟨S1x131072, .f32⟩
  | 32 => ⟨S32x131072, .f32⟩
  | 33 => ⟨S32x131072, .f32⟩
  | 34 => ⟨S32x131072, .f32⟩
  | 35 => ⟨S_, .f32⟩
  | 36 => ⟨S131072, .f32⟩
  | 37 => ⟨S131072, .f32⟩
  | 38 => ⟨S1x131072, .f32⟩
  | 39 => ⟨S32x131072, .f32⟩
  | 40 => ⟨S32x131072, .f32⟩
  | 41 => ⟨S1x131072, .f32⟩
  | 42 => ⟨S32x131072, .f32⟩
  | 43 => ⟨S32x131072, .f32⟩
  | 44 => ⟨S32x131072, .f32⟩
  | 45 => ⟨S1x131072, .f32⟩
  | 46 => ⟨S32x131072, .f32⟩
  | 47 => ⟨S32x131072, .f32⟩
  | 48 => ⟨S1x131072, .f32⟩
  | 49 => ⟨S32x131072, .f32⟩
  | 50 => ⟨S32x131072, .f32⟩
  | 51 => ⟨S32x131072, .f32⟩
  | 52 => ⟨S131072x32, .f32⟩
  | 53 => ⟨S_, .i32⟩
  | 54 => ⟨S2, .i32⟩
  | 55 => ⟨S2, .i1⟩
  | 56 => ⟨S_, .i32⟩
  | 57 => ⟨S2, .i32⟩
  | 58 => ⟨S2, .i32⟩
  | 59 => ⟨S2, .i32⟩
  | 60 => ⟨S2x1, .i32⟩
  | 61 => ⟨S131072x2, .f32⟩
  | 62 => ⟨S131072x1, .f32⟩
  | 63 => ⟨S131072, .f32⟩
  | 64 => ⟨S_, .f32⟩
  | 65 => ⟨S131072, .f32⟩
  | 66 => ⟨S131072, .f32⟩
  | 67 => ⟨S_, .f32⟩
  | 68 => ⟨S131072, .f32⟩
  | 69 => ⟨S131072, .f32⟩
  | 70 => ⟨S_, .f32⟩
  | 71 => ⟨S131072, .f32⟩
  | 72 => ⟨S131072, .f32⟩
  | 73 => ⟨S131072x1, .f32⟩
  | 74 => ⟨S131072, .f32⟩
  | 75 => ⟨S_, .f32⟩
  | 76 => ⟨S131072, .f32⟩
  | 77 => ⟨S131072, .f32⟩
  | 78 => ⟨S_, .f32⟩
  | 79 => ⟨S131072, .f32⟩
  | 80 => ⟨S131072, .f32⟩
  | 81 => ⟨S_, .f32⟩
  | 82 => ⟨S131072, .f32⟩
  | 83 => ⟨S131072, .f32⟩
  | 84 => ⟨S131072, .f32⟩
  | 85 => ⟨S131072, .f32⟩
  | 86 => ⟨S131072, .f32⟩
  | 87 => ⟨S131072, .f32⟩
  | 88 => ⟨S131072, .i32⟩
  | 89 => ⟨S_, .i32⟩
  | 90 => ⟨S_, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i32⟩
  | 97 => ⟨S_, .i32⟩
  | 98 => ⟨S131072, .i32⟩
  | 99 => ⟨S131072, .i32⟩
  | 100 => ⟨S_, .i32⟩
  | 101 => ⟨S_, .i32⟩
  | 102 => ⟨S_, .i32⟩
  | 103 => ⟨S131072, .i32⟩
  | 104 => ⟨S131072, .i32⟩
  | 105 => ⟨S_, .i32⟩
  | 106 => ⟨S131072, .i32⟩
  | 107 => ⟨S131072, .i32⟩
  | 108 => ⟨S131072, .i32⟩
  | 109 => ⟨S_, .i32⟩
  | 110 => ⟨S_, .i32⟩
  | 111 => ⟨S_, .i32⟩
  | 112 => ⟨S131072, .i32⟩
  | 113 => ⟨S131072, .i32⟩
  | 114 => ⟨S_, .i32⟩
  | 115 => ⟨S131072, .i32⟩
  | 116 => ⟨S131072, .i32⟩
  | 117 => ⟨S_, .i32⟩
  | 118 => ⟨S131072, .i32⟩
  | 119 => ⟨S131072, .i32⟩
  | 120 => ⟨S_, .i32⟩
  | 121 => ⟨S_, .i32⟩
  | 122 => ⟨S_, .i32⟩
  | 123 => ⟨S131072, .i32⟩
  | 124 => ⟨S131072, .i32⟩
  | 125 => ⟨S_, .i32⟩
  | 126 => ⟨S131072, .i32⟩
  | 127 => ⟨S131072, .i32⟩
  | _ => ⟨S4096x32x3, .f32⟩

abbrev hbmTy0_4 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072x1, .i32⟩
  | 16 => ⟨S131072x2, .i32⟩
  | 17 => ⟨S32x131072, .f32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S131072x1, .i32⟩
  | 33 => ⟨S131072x1, .i32⟩
  | 34 => ⟨S131072x2, .i32⟩
  | 35 => ⟨S32x131072, .f32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x1, .i32⟩
  | 52 => ⟨S131072x2, .i32⟩
  | 53 => ⟨S32x131072, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x1, .i32⟩
  | 70 => ⟨S131072x2, .i32⟩
  | 71 => ⟨S32x131072, .f32⟩
  | 72 => ⟨S_, .f32⟩
  | 73 => ⟨S131072, .f32⟩
  | 74 => ⟨S131072, .f32⟩
  | 75 => ⟨S1x131072, .f32⟩
  | 76 => ⟨S32x131072, .f32⟩
  | 77 => ⟨S32x131072, .f32⟩
  | 78 => ⟨S_, .f32⟩
  | 79 => ⟨S131072, .f32⟩
  | 80 => ⟨S131072, .f32⟩
  | 81 => ⟨S1x131072, .f32⟩
  | 82 => ⟨S32x131072, .f32⟩
  | 83 => ⟨S32x131072, .f32⟩
  | 84 => ⟨S1x131072, .f32⟩
  | 85 => ⟨S32x131072, .f32⟩
  | 86 => ⟨S32x131072, .f32⟩
  | 87 => ⟨S_, .f32⟩
  | 88 => ⟨S131072, .f32⟩
  | 89 => ⟨S131072, .f32⟩
  | 90 => ⟨S1x131072, .f32⟩
  | 91 => ⟨S32x131072, .f32⟩
  | 92 => ⟨S32x131072, .f32⟩
  | 93 => ⟨S32x131072, .f32⟩
  | 94 => ⟨S_, .f32⟩
  | 95 => ⟨S131072, .f32⟩
  | 96 => ⟨S131072, .f32⟩
  | 97 => ⟨S1x131072, .f32⟩
  | 98 => ⟨S32x131072, .f32⟩
  | 99 => ⟨S32x131072, .f32⟩
  | 100 => ⟨S1x131072, .f32⟩
  | 101 => ⟨S32x131072, .f32⟩
  | 102 => ⟨S32x131072, .f32⟩
  | 103 => ⟨S32x131072, .f32⟩
  | 104 => ⟨S1x131072, .f32⟩
  | 105 => ⟨S32x131072, .f32⟩
  | 106 => ⟨S32x131072, .f32⟩
  | 107 => ⟨S1x131072, .f32⟩
  | 108 => ⟨S32x131072, .f32⟩
  | 109 => ⟨S32x131072, .f32⟩
  | 110 => ⟨S32x131072, .f32⟩
  | 111 => ⟨S131072x32, .f32⟩
  | 112 => ⟨S_, .i32⟩
  | 113 => ⟨S2, .i32⟩
  | 114 => ⟨S2, .i1⟩
  | 115 => ⟨S_, .i32⟩
  | 116 => ⟨S2, .i32⟩
  | 117 => ⟨S2, .i32⟩
  | 118 => ⟨S2, .i32⟩
  | 119 => ⟨S2x1, .i32⟩
  | 120 => ⟨S131072x2, .f32⟩
  | 121 => ⟨S131072x1, .f32⟩
  | 122 => ⟨S131072, .f32⟩
  | 123 => ⟨S_, .f32⟩
  | 124 => ⟨S131072, .f32⟩
  | 125 => ⟨S131072, .f32⟩
  | 126 => ⟨S_, .f32⟩
  | 127 => ⟨S131072, .f32⟩
  | _ => ⟨S4096x32x3, .f32⟩

abbrev hbmTy0_5 (i : Nat) : BufTy := match i % 128 with
  | 0 => ⟨S131072, .f32⟩
  | 1 => ⟨S_, .f32⟩
  | 2 => ⟨S131072, .f32⟩
  | 3 => ⟨S131072, .f32⟩
  | 4 => ⟨S131072x1, .f32⟩
  | 5 => ⟨S131072, .f32⟩
  | 6 => ⟨S_, .f32⟩
  | 7 => ⟨S131072, .f32⟩
  | 8 => ⟨S131072, .f32⟩
  | 9 => ⟨S_, .f32⟩
  | 10 => ⟨S131072, .f32⟩
  | 11 => ⟨S131072, .f32⟩
  | 12 => ⟨S_, .f32⟩
  | 13 => ⟨S131072, .f32⟩
  | 14 => ⟨S131072, .f32⟩
  | 15 => ⟨S131072, .f32⟩
  | 16 => ⟨S131072, .f32⟩
  | 17 => ⟨S131072, .f32⟩
  | 18 => ⟨S131072, .f32⟩
  | 19 => ⟨S131072, .i32⟩
  | 20 => ⟨S_, .i32⟩
  | 21 => ⟨S_, .i32⟩
  | 22 => ⟨S_, .i32⟩
  | 23 => ⟨S131072, .i32⟩
  | 24 => ⟨S131072, .i32⟩
  | 25 => ⟨S_, .i32⟩
  | 26 => ⟨S131072, .i32⟩
  | 27 => ⟨S131072, .i32⟩
  | 28 => ⟨S_, .i32⟩
  | 29 => ⟨S131072, .i32⟩
  | 30 => ⟨S131072, .i32⟩
  | 31 => ⟨S_, .i32⟩
  | 32 => ⟨S_, .i32⟩
  | 33 => ⟨S_, .i32⟩
  | 34 => ⟨S131072, .i32⟩
  | 35 => ⟨S131072, .i32⟩
  | 36 => ⟨S_, .i32⟩
  | 37 => ⟨S131072, .i32⟩
  | 38 => ⟨S131072, .i32⟩
  | 39 => ⟨S131072, .i32⟩
  | 40 => ⟨S_, .i32⟩
  | 41 => ⟨S_, .i32⟩
  | 42 => ⟨S_, .i32⟩
  | 43 => ⟨S131072, .i32⟩
  | 44 => ⟨S131072, .i32⟩
  | 45 => ⟨S_, .i32⟩
  | 46 => ⟨S131072, .i32⟩
  | 47 => ⟨S131072, .i32⟩
  | 48 => ⟨S_, .i32⟩
  | 49 => ⟨S131072, .i32⟩
  | 50 => ⟨S131072, .i32⟩
  | 51 => ⟨S_, .i32⟩
  | 52 => ⟨S_, .i32⟩
  | 53 => ⟨S_, .i32⟩
  | 54 => ⟨S131072, .i32⟩
  | 55 => ⟨S131072, .i32⟩
  | 56 => ⟨S_, .i32⟩
  | 57 => ⟨S131072, .i32⟩
  | 58 => ⟨S131072, .i32⟩
  | 59 => ⟨S_, .i32⟩
  | 60 => ⟨S131072, .i32⟩
  | 61 => ⟨S131072, .i1⟩
  | 62 => ⟨S_, .i32⟩
  | 63 => ⟨S131072, .i32⟩
  | 64 => ⟨S131072, .i32⟩
  | 65 => ⟨S131072, .i32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S131072x1, .i32⟩
  | 74 => ⟨S131072x1, .i32⟩
  | 75 => ⟨S131072x2, .i32⟩
  | 76 => ⟨S32x131072, .f32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S_, .i32⟩
  | 85 => ⟨S131072, .i32⟩
  | 86 => ⟨S131072, .i1⟩
  | 87 => ⟨S_, .i32⟩
  | 88 => ⟨S131072, .i32⟩
  | 89 => ⟨S131072, .i32⟩
  | 90 => ⟨S131072, .i32⟩
  | 91 => ⟨S131072x1, .i32⟩
  | 92 => ⟨S131072x1, .i32⟩
  | 93 => ⟨S131072x2, .i32⟩
  | 94 => ⟨S32x131072, .f32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x1, .i32⟩
  | 111 => ⟨S131072x2, .i32⟩
  | 112 => ⟨S32x131072, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S4096x32x3, .f32⟩

abbrev hbmTy0_6 (i : Nat) : BufTy := match i % 128 with
  | 0 => ⟨S131072x1, .i32⟩
  | 1 => ⟨S131072x2, .i32⟩
  | 2 => ⟨S32x131072, .f32⟩
  | 3 => ⟨S_, .f32⟩
  | 4 => ⟨S131072, .f32⟩
  | 5 => ⟨S131072, .f32⟩
  | 6 => ⟨S1x131072, .f32⟩
  | 7 => ⟨S32x131072, .f32⟩
  | 8 => ⟨S32x131072, .f32⟩
  | 9 => ⟨S_, .f32⟩
  | 10 => ⟨S131072, .f32⟩
  | 11 => ⟨S131072, .f32⟩
  | 12 => ⟨S1x131072, .f32⟩
  | 13 => ⟨S32x131072, .f32⟩
  | 14 => ⟨S32x131072, .f32⟩
  | 15 => ⟨S1x131072, .f32⟩
  | 16 => ⟨S32x131072, .f32⟩
  | 17 => ⟨S32x131072, .f32⟩
  | 18 => ⟨S_, .f32⟩
  | 19 => ⟨S131072, .f32⟩
  | 20 => ⟨S131072, .f32⟩
  | 21 => ⟨S1x131072, .f32⟩
  | 22 => ⟨S32x131072, .f32⟩
  | 23 => ⟨S32x131072, .f32⟩
  | 24 => ⟨S32x131072, .f32⟩
  | 25 => ⟨S_, .f32⟩
  | 26 => ⟨S131072, .f32⟩
  | 27 => ⟨S131072, .f32⟩
  | 28 => ⟨S1x131072, .f32⟩
  | 29 => ⟨S32x131072, .f32⟩
  | 30 => ⟨S32x131072, .f32⟩
  | 31 => ⟨S1x131072, .f32⟩
  | 32 => ⟨S32x131072, .f32⟩
  | 33 => ⟨S32x131072, .f32⟩
  | 34 => ⟨S32x131072, .f32⟩
  | 35 => ⟨S1x131072, .f32⟩
  | 36 => ⟨S32x131072, .f32⟩
  | 37 => ⟨S32x131072, .f32⟩
  | 38 => ⟨S1x131072, .f32⟩
  | 39 => ⟨S32x131072, .f32⟩
  | 40 => ⟨S32x131072, .f32⟩
  | 41 => ⟨S32x131072, .f32⟩
  | 42 => ⟨S131072x32, .f32⟩
  | 43 => ⟨S_, .i32⟩
  | 44 => ⟨S2, .i32⟩
  | 45 => ⟨S2, .i1⟩
  | 46 => ⟨S_, .i32⟩
  | 47 => ⟨S2, .i32⟩
  | 48 => ⟨S2, .i32⟩
  | 49 => ⟨S2, .i32⟩
  | 50 => ⟨S2x1, .i32⟩
  | 51 => ⟨S131072x2, .f32⟩
  | 52 => ⟨S131072x1, .f32⟩
  | 53 => ⟨S131072, .f32⟩
  | 54 => ⟨S_, .f32⟩
  | 55 => ⟨S131072, .f32⟩
  | 56 => ⟨S131072, .f32⟩
  | 57 => ⟨S_, .f32⟩
  | 58 => ⟨S131072, .f32⟩
  | 59 => ⟨S131072, .f32⟩
  | 60 => ⟨S_, .f32⟩
  | 61 => ⟨S131072, .f32⟩
  | 62 => ⟨S131072, .f32⟩
  | 63 => ⟨S131072x1, .f32⟩
  | 64 => ⟨S131072, .f32⟩
  | 65 => ⟨S_, .f32⟩
  | 66 => ⟨S131072, .f32⟩
  | 67 => ⟨S131072, .f32⟩
  | 68 => ⟨S_, .f32⟩
  | 69 => ⟨S131072, .f32⟩
  | 70 => ⟨S131072, .f32⟩
  | 71 => ⟨S_, .f32⟩
  | 72 => ⟨S131072, .f32⟩
  | 73 => ⟨S131072, .f32⟩
  | 74 => ⟨S131072, .f32⟩
  | 75 => ⟨S131072, .f32⟩
  | 76 => ⟨S131072, .f32⟩
  | 77 => ⟨S131072, .f32⟩
  | 78 => ⟨S131072, .i32⟩
  | 79 => ⟨S_, .i32⟩
  | 80 => ⟨S_, .i32⟩
  | 81 => ⟨S_, .i32⟩
  | 82 => ⟨S131072, .i32⟩
  | 83 => ⟨S131072, .i32⟩
  | 84 => ⟨S_, .i32⟩
  | 85 => ⟨S131072, .i32⟩
  | 86 => ⟨S131072, .i32⟩
  | 87 => ⟨S_, .i32⟩
  | 88 => ⟨S131072, .i32⟩
  | 89 => ⟨S131072, .i32⟩
  | 90 => ⟨S_, .i32⟩
  | 91 => ⟨S_, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i32⟩
  | 98 => ⟨S131072, .i32⟩
  | 99 => ⟨S_, .i32⟩
  | 100 => ⟨S_, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i32⟩
  | 107 => ⟨S_, .i32⟩
  | 108 => ⟨S131072, .i32⟩
  | 109 => ⟨S131072, .i32⟩
  | 110 => ⟨S_, .i32⟩
  | 111 => ⟨S_, .i32⟩
  | 112 => ⟨S_, .i32⟩
  | 113 => ⟨S131072, .i32⟩
  | 114 => ⟨S131072, .i32⟩
  | 115 => ⟨S_, .i32⟩
  | 116 => ⟨S131072, .i32⟩
  | 117 => ⟨S131072, .i32⟩
  | 118 => ⟨S_, .i32⟩
  | 119 => ⟨S131072, .i32⟩
  | 120 => ⟨S131072, .i1⟩
  | 121 => ⟨S_, .i32⟩
  | 122 => ⟨S131072, .i32⟩
  | 123 => ⟨S131072, .i32⟩
  | 124 => ⟨S131072, .i32⟩
  | 125 => ⟨S_, .i32⟩
  | 126 => ⟨S131072, .i32⟩
  | 127 => ⟨S131072, .i1⟩
  | _ => ⟨S4096x32x3, .f32⟩

abbrev hbmTy0_7 (i : Nat) : BufTy := match i % 128 with
  | 0 => ⟨S_, .i32⟩
  | 1 => ⟨S131072, .i32⟩
  | 2 => ⟨S131072, .i32⟩
  | 3 => ⟨S131072, .i32⟩
  | 4 => ⟨S131072x1, .i32⟩
  | 5 => ⟨S131072x1, .i32⟩
  | 6 => ⟨S131072x2, .i32⟩
  | 7 => ⟨S32x131072, .f32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S131072x1, .i32⟩
  | 23 => ⟨S131072x1, .i32⟩
  | 24 => ⟨S131072x2, .i32⟩
  | 25 => ⟨S32x131072, .f32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S131072x1, .i32⟩
  | 41 => ⟨S131072x1, .i32⟩
  | 42 => ⟨S131072x2, .i32⟩
  | 43 => ⟨S32x131072, .f32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x1, .i32⟩
  | 60 => ⟨S131072x2, .i32⟩
  | 61 => ⟨S32x131072, .f32⟩
  | 62 => ⟨S_, .f32⟩
  | 63 => ⟨S131072, .f32⟩
  | 64 => ⟨S131072, .f32⟩
  | 65 => ⟨S1x131072, .f32⟩
  | 66 => ⟨S32x131072, .f32⟩
  | 67 => ⟨S32x131072, .f32⟩
  | 68 => ⟨S_, .f32⟩
  | 69 => ⟨S131072, .f32⟩
  | 70 => ⟨S131072, .f32⟩
  | 71 => ⟨S1x131072, .f32⟩
  | 72 => ⟨S32x131072, .f32⟩
  | 73 => ⟨S32x131072, .f32⟩
  | 74 => ⟨S1x131072, .f32⟩
  | 75 => ⟨S32x131072, .f32⟩
  | 76 => ⟨S32x131072, .f32⟩
  | 77 => ⟨S_, .f32⟩
  | 78 => ⟨S131072, .f32⟩
  | 79 => ⟨S131072, .f32⟩
  | 80 => ⟨S1x131072, .f32⟩
  | 81 => ⟨S32x131072, .f32⟩
  | 82 => ⟨S32x131072, .f32⟩
  | 83 => ⟨S32x131072, .f32⟩
  | 84 => ⟨S_, .f32⟩
  | 85 => ⟨S131072, .f32⟩
  | 86 => ⟨S131072, .f32⟩
  | 87 => ⟨S1x131072, .f32⟩
  | 88 => ⟨S32x131072, .f32⟩
  | 89 => ⟨S32x131072, .f32⟩
  | 90 => ⟨S1x131072, .f32⟩
  | 91 => ⟨S32x131072, .f32⟩
  | 92 => ⟨S32x131072, .f32⟩
  | 93 => ⟨S32x131072, .f32⟩
  | 94 => ⟨S1x131072, .f32⟩
  | 95 => ⟨S32x131072, .f32⟩
  | 96 => ⟨S32x131072, .f32⟩
  | 97 => ⟨S1x131072, .f32⟩
  | 98 => ⟨S32x131072, .f32⟩
  | 99 => ⟨S32x131072, .f32⟩
  | 100 => ⟨S32x131072, .f32⟩
  | 101 => ⟨S131072x32, .f32⟩
  | 102 => ⟨S_, .i32⟩
  | 103 => ⟨S2, .i32⟩
  | 104 => ⟨S2, .i1⟩
  | 105 => ⟨S_, .i32⟩
  | 106 => ⟨S2, .i32⟩
  | 107 => ⟨S2, .i32⟩
  | 108 => ⟨S2, .i32⟩
  | 109 => ⟨S2x1, .i32⟩
  | 110 => ⟨S131072x2, .f32⟩
  | 111 => ⟨S131072x1, .f32⟩
  | 112 => ⟨S131072, .f32⟩
  | 113 => ⟨S_, .f32⟩
  | 114 => ⟨S131072, .f32⟩
  | 115 => ⟨S131072, .f32⟩
  | 116 => ⟨S_, .f32⟩
  | 117 => ⟨S131072, .f32⟩
  | 118 => ⟨S131072, .f32⟩
  | 119 => ⟨S_, .f32⟩
  | 120 => ⟨S131072, .f32⟩
  | 121 => ⟨S131072, .f32⟩
  | 122 => ⟨S131072x1, .f32⟩
  | 123 => ⟨S131072, .f32⟩
  | 124 => ⟨S_, .f32⟩
  | 125 => ⟨S131072, .f32⟩
  | 126 => ⟨S131072, .f32⟩
  | 127 => ⟨S_, .f32⟩
  | _ => ⟨S4096x32x3, .f32⟩

abbrev hbmTy0_8 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S131072, .f32⟩
  | 7 => ⟨S131072, .f32⟩
  | 8 => ⟨S131072, .f32⟩
  | 9 => ⟨S131072, .i32⟩
  | 10 => ⟨S_, .i32⟩
  | 11 => ⟨S_, .i32⟩
  | 12 => ⟨S_, .i32⟩
  | 13 => ⟨S131072, .i32⟩
  | 14 => ⟨S131072, .i32⟩
  | 15 => ⟨S_, .i32⟩
  | 16 => ⟨S131072, .i32⟩
  | 17 => ⟨S131072, .i32⟩
  | 18 => ⟨S_, .i32⟩
  | 19 => ⟨S131072, .i32⟩
  | 20 => ⟨S131072, .i32⟩
  | 21 => ⟨S_, .i32⟩
  | 22 => ⟨S_, .i32⟩
  | 23 => ⟨S_, .i32⟩
  | 24 => ⟨S131072, .i32⟩
  | 25 => ⟨S131072, .i32⟩
  | 26 => ⟨S_, .i32⟩
  | 27 => ⟨S131072, .i32⟩
  | 28 => ⟨S131072, .i32⟩
  | 29 => ⟨S131072, .i32⟩
  | 30 => ⟨S_, .i32⟩
  | 31 => ⟨S_, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i32⟩
  | 38 => ⟨S_, .i32⟩
  | 39 => ⟨S131072, .i32⟩
  | 40 => ⟨S131072, .i32⟩
  | 41 => ⟨S_, .i32⟩
  | 42 => ⟨S_, .i32⟩
  | 43 => ⟨S_, .i32⟩
  | 44 => ⟨S131072, .i32⟩
  | 45 => ⟨S131072, .i32⟩
  | 46 => ⟨S_, .i32⟩
  | 47 => ⟨S131072, .i32⟩
  | 48 => ⟨S131072, .i32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072x1, .i32⟩
  | 65 => ⟨S131072x2, .i32⟩
  | 66 => ⟨S32x131072, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S131072x1, .i32⟩
  | 83 => ⟨S131072x2, .i32⟩
  | 84 => ⟨S32x131072, .f32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S131072x1, .i32⟩
  | 100 => ⟨S131072x1, .i32⟩
  | 101 => ⟨S131072x2, .i32⟩
  | 102 => ⟨S32x131072, .f32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S_, .i32⟩
  | 111 => ⟨S131072, .i32⟩
  | 112 => ⟨S131072, .i1⟩
  | 113 => ⟨S_, .i32⟩
  | 114 => ⟨S131072, .i32⟩
  | 115 => ⟨S131072, .i32⟩
  | 116 => ⟨S131072, .i32⟩
  | 117 => ⟨S131072x1, .i32⟩
  | 118 => ⟨S131072x1, .i32⟩
  | 119 => ⟨S131072x2, .i32⟩
  | 120 => ⟨S32x131072, .f32⟩
  | 121 => ⟨S_, .f32⟩
  | 122 => ⟨S131072, .f32⟩
  | 123 => ⟨S131072, .f32⟩
  | 124 => ⟨S1x131072, .f32⟩
  | 125 => ⟨S32x131072, .f32⟩
  | 126 => ⟨S32x131072, .f32⟩
  | 127 => ⟨S_, .f32⟩
  | _ => ⟨S4096x32x3, .f32⟩

abbrev hbmTy0_9 (i : Nat) : BufTy := match i % 128 with
  | 0 => ⟨S131072, .f32⟩
  | 1 => ⟨S131072, .f32⟩
  | 2 => ⟨S1x131072, .f32⟩
  | 3 => ⟨S32x131072, .f32⟩
  | 4 => ⟨S32x131072, .f32⟩
  | 5 => ⟨S1x131072, .f32⟩
  | 6 => ⟨S32x131072, .f32⟩
  | 7 => ⟨S32x131072, .f32⟩
  | 8 => ⟨S_, .f32⟩
  | 9 => ⟨S131072, .f32⟩
  | 10 => ⟨S131072, .f32⟩
  | 11 => ⟨S1x131072, .f32⟩
  | 12 => ⟨S32x131072, .f32⟩
  | 13 => ⟨S32x131072, .f32⟩
  | 14 => ⟨S32x131072, .f32⟩
  | 15 => ⟨S_, .f32⟩
  | 16 => ⟨S131072, .f32⟩
  | 17 => ⟨S131072, .f32⟩
  | 18 => ⟨S1x131072, .f32⟩
  | 19 => ⟨S32x131072, .f32⟩
  | 20 => ⟨S32x131072, .f32⟩
  | 21 => ⟨S1x131072, .f32⟩
  | 22 => ⟨S32x131072, .f32⟩
  | 23 => ⟨S32x131072, .f32⟩
  | 24 => ⟨S32x131072, .f32⟩
  | 25 => ⟨S1x131072, .f32⟩
  | 26 => ⟨S32x131072, .f32⟩
  | 27 => ⟨S32x131072, .f32⟩
  | 28 => ⟨S1x131072, .f32⟩
  | 29 => ⟨S32x131072, .f32⟩
  | 30 => ⟨S32x131072, .f32⟩
  | 31 => ⟨S32x131072, .f32⟩
  | 32 => ⟨S131072x32, .f32⟩
  | 33 => ⟨S_, .i32⟩
  | 34 => ⟨S2, .i32⟩
  | 35 => ⟨S2, .i1⟩
  | 36 => ⟨S_, .i32⟩
  | 37 => ⟨S2, .i32⟩
  | 38 => ⟨S2, .i32⟩
  | 39 => ⟨S2, .i32⟩
  | 40 => ⟨S2x1, .i32⟩
  | 41 => ⟨S131072x2, .f32⟩
  | 42 => ⟨S131072x1, .f32⟩
  | 43 => ⟨S131072, .f32⟩
  | 44 => ⟨S_, .f32⟩
  | 45 => ⟨S131072, .f32⟩
  | 46 => ⟨S131072, .f32⟩
  | 47 => ⟨S_, .f32⟩
  | 48 => ⟨S131072, .f32⟩
  | 49 => ⟨S131072, .f32⟩
  | 50 => ⟨S_, .f32⟩
  | 51 => ⟨S131072, .f32⟩
  | 52 => ⟨S131072, .f32⟩
  | 53 => ⟨S131072x1, .f32⟩
  | 54 => ⟨S131072, .f32⟩
  | 55 => ⟨S_, .f32⟩
  | 56 => ⟨S131072, .f32⟩
  | 57 => ⟨S131072, .f32⟩
  | 58 => ⟨S_, .f32⟩
  | 59 => ⟨S131072, .f32⟩
  | 60 => ⟨S131072, .f32⟩
  | 61 => ⟨S_, .f32⟩
  | 62 => ⟨S131072, .f32⟩
  | 63 => ⟨S131072, .f32⟩
  | 64 => ⟨S131072, .f32⟩
  | 65 => ⟨S131072, .f32⟩
  | 66 => ⟨S131072, .f32⟩
  | 67 => ⟨S131072, .f32⟩
  | 68 => ⟨S131072, .i32⟩
  | 69 => ⟨S_, .i32⟩
  | 70 => ⟨S_, .i32⟩
  | 71 => ⟨S_, .i32⟩
  | 72 => ⟨S131072, .i32⟩
  | 73 => ⟨S131072, .i32⟩
  | 74 => ⟨S_, .i32⟩
  | 75 => ⟨S131072, .i32⟩
  | 76 => ⟨S131072, .i32⟩
  | 77 => ⟨S_, .i32⟩
  | 78 => ⟨S131072, .i32⟩
  | 79 => ⟨S131072, .i32⟩
  | 80 => ⟨S_, .i32⟩
  | 81 => ⟨S_, .i32⟩
  | 82 => ⟨S_, .i32⟩
  | 83 => ⟨S131072, .i32⟩
  | 84 => ⟨S131072, .i32⟩
  | 85 => ⟨S_, .i32⟩
  | 86 => ⟨S131072, .i32⟩
  | 87 => ⟨S131072, .i32⟩
  | 88 => ⟨S131072, .i32⟩
  | 89 => ⟨S_, .i32⟩
  | 90 => ⟨S_, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i32⟩
  | 97 => ⟨S_, .i32⟩
  | 98 => ⟨S131072, .i32⟩
  | 99 => ⟨S131072, .i32⟩
  | 100 => ⟨S_, .i32⟩
  | 101 => ⟨S_, .i32⟩
  | 102 => ⟨S_, .i32⟩
  | 103 => ⟨S131072, .i32⟩
  | 104 => ⟨S131072, .i32⟩
  | 105 => ⟨S_, .i32⟩
  | 106 => ⟨S131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S131072x1, .i32⟩
  | 124 => ⟨S131072x2, .i32⟩
  | 125 => ⟨S32x131072, .f32⟩
  | 126 => ⟨S_, .i32⟩
  | 127 => ⟨S131072, .i32⟩
  | _ => ⟨S4096x32x3, .f32⟩

abbrev hbmTy0_10 (i : Nat) : BufTy := match i % 128 with
  | 0 => ⟨S131072, .i1⟩
  | 1 => ⟨S_, .i32⟩
  | 2 => ⟨S131072, .i32⟩
  | 3 => ⟨S131072, .i32⟩
  | 4 => ⟨S131072, .i32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S131072x1, .i32⟩
  | 13 => ⟨S131072x1, .i32⟩
  | 14 => ⟨S131072x2, .i32⟩
  | 15 => ⟨S32x131072, .f32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x1, .i32⟩
  | 32 => ⟨S131072x2, .i32⟩
  | 33 => ⟨S32x131072, .f32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072x1, .i32⟩
  | 50 => ⟨S131072x2, .i32⟩
  | 51 => ⟨S32x131072, .f32⟩
  | 52 => ⟨S_, .f32⟩
  | 53 => ⟨S131072, .f32⟩
  | 54 => ⟨S131072, .f32⟩
  | 55 => ⟨S1x131072, .f32⟩
  | 56 => ⟨S32x131072, .f32⟩
  | 57 => ⟨S32x131072, .f32⟩
  | 58 => ⟨S_, .f32⟩
  | 59 => ⟨S131072, .f32⟩
  | 60 => ⟨S131072, .f32⟩
  | 61 => ⟨S1x131072, .f32⟩
  | 62 => ⟨S32x131072, .f32⟩
  | 63 => ⟨S32x131072, .f32⟩
  | 64 => ⟨S1x131072, .f32⟩
  | 65 => ⟨S32x131072, .f32⟩
  | 66 => ⟨S32x131072, .f32⟩
  | 67 => ⟨S_, .f32⟩
  | 68 => ⟨S131072, .f32⟩
  | 69 => ⟨S131072, .f32⟩
  | 70 => ⟨S1x131072, .f32⟩
  | 71 => ⟨S32x131072, .f32⟩
  | 72 => ⟨S32x131072, .f32⟩
  | 73 => ⟨S32x131072, .f32⟩
  | 74 => ⟨S_, .f32⟩
  | 75 => ⟨S131072, .f32⟩
  | 76 => ⟨S131072, .f32⟩
  | 77 => ⟨S1x131072, .f32⟩
  | 78 => ⟨S32x131072, .f32⟩
  | 79 => ⟨S32x131072, .f32⟩
  | 80 => ⟨S1x131072, .f32⟩
  | 81 => ⟨S32x131072, .f32⟩
  | 82 => ⟨S32x131072, .f32⟩
  | 83 => ⟨S32x131072, .f32⟩
  | 84 => ⟨S1x131072, .f32⟩
  | 85 => ⟨S32x131072, .f32⟩
  | 86 => ⟨S32x131072, .f32⟩
  | 87 => ⟨S1x131072, .f32⟩
  | 88 => ⟨S32x131072, .f32⟩
  | 89 => ⟨S32x131072, .f32⟩
  | 90 => ⟨S32x131072, .f32⟩
  | 91 => ⟨S131072x32, .f32⟩
  | 92 => ⟨S_, .i32⟩
  | 93 => ⟨S2, .i32⟩
  | 94 => ⟨S2, .i1⟩
  | 95 => ⟨S_, .i32⟩
  | 96 => ⟨S2, .i32⟩
  | 97 => ⟨S2, .i32⟩
  | 98 => ⟨S2, .i32⟩
  | 99 => ⟨S2x1, .i32⟩
  | 100 => ⟨S131072x2, .f32⟩
  | 101 => ⟨S131072x1, .f32⟩
  | 102 => ⟨S131072, .f32⟩
  | 103 => ⟨S_, .f32⟩
  | 104 => ⟨S131072, .f32⟩
  | 105 => ⟨S131072, .f32⟩
  | 106 => ⟨S_, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072x1, .f32⟩
  | 113 => ⟨S131072, .f32⟩
  | 114 => ⟨S_, .f32⟩
  | 115 => ⟨S131072, .f32⟩
  | 116 => ⟨S131072, .f32⟩
  | 117 => ⟨S_, .f32⟩
  | 118 => ⟨S131072, .f32⟩
  | 119 => ⟨S131072, .f32⟩
  | 120 => ⟨S_, .f32⟩
  | 121 => ⟨S131072, .f32⟩
  | 122 => ⟨S131072, .f32⟩
  | 123 => ⟨S131072, .f32⟩
  | 124 => ⟨S131072, .f32⟩
  | 125 => ⟨S131072, .f32⟩
  | 126 => ⟨S131072, .f32⟩
  | 127 => ⟨S131072, .i32⟩
  | _ => ⟨S4096x32x3, .f32⟩

abbrev hbmTy0_11 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S_, .i32⟩
  | 12 => ⟨S_, .i32⟩
  | 13 => ⟨S_, .i32⟩
  | 14 => ⟨S131072, .i32⟩
  | 15 => ⟨S131072, .i32⟩
  | 16 => ⟨S_, .i32⟩
  | 17 => ⟨S131072, .i32⟩
  | 18 => ⟨S131072, .i32⟩
  | 19 => ⟨S131072, .i32⟩
  | 20 => ⟨S_, .i32⟩
  | 21 => ⟨S_, .i32⟩
  | 22 => ⟨S_, .i32⟩
  | 23 => ⟨S131072, .i32⟩
  | 24 => ⟨S131072, .i32⟩
  | 25 => ⟨S_, .i32⟩
  | 26 => ⟨S131072, .i32⟩
  | 27 => ⟨S131072, .i32⟩
  | 28 => ⟨S_, .i32⟩
  | 29 => ⟨S131072, .i32⟩
  | 30 => ⟨S131072, .i32⟩
  | 31 => ⟨S_, .i32⟩
  | 32 => ⟨S_, .i32⟩
  | 33 => ⟨S_, .i32⟩
  | 34 => ⟨S131072, .i32⟩
  | 35 => ⟨S131072, .i32⟩
  | 36 => ⟨S_, .i32⟩
  | 37 => ⟨S131072, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x1, .i32⟩
  | 55 => ⟨S131072x2, .i32⟩
  | 56 => ⟨S32x131072, .f32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S131072x1, .i32⟩
  | 73 => ⟨S131072x2, .i32⟩
  | 74 => ⟨S32x131072, .f32⟩
  | 75 => ⟨S_, .i32⟩
  | 76 => ⟨S131072, .i32⟩
  | 77 => ⟨S131072, .i1⟩
  | 78 => ⟨S_, .i32⟩
  | 79 => ⟨S131072, .i32⟩
  | 80 => ⟨S131072, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x1, .i32⟩
  | 91 => ⟨S131072x2, .i32⟩
  | 92 => ⟨S32x131072, .f32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S131072x1, .i32⟩
  | 108 => ⟨S131072x1, .i32⟩
  | 109 => ⟨S131072x2, .i32⟩
  | 110 => ⟨S32x131072, .f32⟩
  | 111 => ⟨S_, .f32⟩
  | 112 => ⟨S131072, .f32⟩
  | 113 => ⟨S131072, .f32⟩
  | 114 => ⟨S1x131072, .f32⟩
  | 115 => ⟨S32x131072, .f32⟩
  | 116 => ⟨S32x131072, .f32⟩
  | 117 => ⟨S_, .f32⟩
  | 118 => ⟨S131072, .f32⟩
  | 119 => ⟨S131072, .f32⟩
  | 120 => ⟨S1x131072, .f32⟩
  | 121 => ⟨S32x131072, .f32⟩
  | 122 => ⟨S32x131072, .f32⟩
  | 123 => ⟨S1x131072, .f32⟩
  | 124 => ⟨S32x131072, .f32⟩
  | 125 => ⟨S32x131072, .f32⟩
  | 126 => ⟨S_, .f32⟩
  | 127 => ⟨S131072, .f32⟩
  | _ => ⟨S4096x32x3, .f32⟩

abbrev hbmTy0_12 (i : Nat) : BufTy := match i % 128 with
  | 0 => ⟨S131072, .f32⟩
  | 1 => ⟨S1x131072, .f32⟩
  | 2 => ⟨S32x131072, .f32⟩
  | 3 => ⟨S32x131072, .f32⟩
  | 4 => ⟨S32x131072, .f32⟩
  | 5 => ⟨S_, .f32⟩
  | 6 => ⟨S131072, .f32⟩
  | 7 => ⟨S131072, .f32⟩
  | 8 => ⟨S1x131072, .f32⟩
  | 9 => ⟨S32x131072, .f32⟩
  | 10 => ⟨S32x131072, .f32⟩
  | 11 => ⟨S1x131072, .f32⟩
  | 12 => ⟨S32x131072, .f32⟩
  | 13 => ⟨S32x131072, .f32⟩
  | 14 => ⟨S32x131072, .f32⟩
  | 15 => ⟨S1x131072, .f32⟩
  | 16 => ⟨S32x131072, .f32⟩
  | 17 => ⟨S32x131072, .f32⟩
  | 18 => ⟨S1x131072, .f32⟩
  | 19 => ⟨S32x131072, .f32⟩
  | 20 => ⟨S32x131072, .f32⟩
  | 21 => ⟨S32x131072, .f32⟩
  | 22 => ⟨S131072x32, .f32⟩
  | 23 => ⟨S_, .i32⟩
  | 24 => ⟨S2, .i32⟩
  | 25 => ⟨S2, .i1⟩
  | 26 => ⟨S_, .i32⟩
  | 27 => ⟨S2, .i32⟩
  | 28 => ⟨S2, .i32⟩
  | 29 => ⟨S2, .i32⟩
  | 30 => ⟨S2x1, .i32⟩
  | 31 => ⟨S131072x2, .f32⟩
  | 32 => ⟨S131072x1, .f32⟩
  | 33 => ⟨S131072, .f32⟩
  | 34 => ⟨S_, .f32⟩
  | 35 => ⟨S131072, .f32⟩
  | 36 => ⟨S131072, .f32⟩
  | 37 => ⟨S_, .f32⟩
  | 38 => ⟨S131072, .f32⟩
  | 39 => ⟨S131072, .f32⟩
  | 40 => ⟨S_, .f32⟩
  | 41 => ⟨S131072, .f32⟩
  | 42 => ⟨S131072, .f32⟩
  | 43 => ⟨S131072x1, .f32⟩
  | 44 => ⟨S131072, .f32⟩
  | 45 => ⟨S_, .f32⟩
  | 46 => ⟨S131072, .f32⟩
  | 47 => ⟨S131072, .f32⟩
  | 48 => ⟨S_, .f32⟩
  | 49 => ⟨S131072, .f32⟩
  | 50 => ⟨S131072, .f32⟩
  | 51 => ⟨S_, .f32⟩
  | 52 => ⟨S131072, .f32⟩
  | 53 => ⟨S131072, .f32⟩
  | 54 => ⟨S131072, .f32⟩
  | 55 => ⟨S131072, .f32⟩
  | 56 => ⟨S131072, .f32⟩
  | 57 => ⟨S131072, .f32⟩
  | 58 => ⟨S131072, .i32⟩
  | 59 => ⟨S_, .i32⟩
  | 60 => ⟨S_, .i32⟩
  | 61 => ⟨S_, .i32⟩
  | 62 => ⟨S131072, .i32⟩
  | 63 => ⟨S131072, .i32⟩
  | 64 => ⟨S_, .i32⟩
  | 65 => ⟨S131072, .i32⟩
  | 66 => ⟨S131072, .i32⟩
  | 67 => ⟨S_, .i32⟩
  | 68 => ⟨S131072, .i32⟩
  | 69 => ⟨S131072, .i32⟩
  | 70 => ⟨S_, .i32⟩
  | 71 => ⟨S_, .i32⟩
  | 72 => ⟨S_, .i32⟩
  | 73 => ⟨S131072, .i32⟩
  | 74 => ⟨S131072, .i32⟩
  | 75 => ⟨S_, .i32⟩
  | 76 => ⟨S131072, .i32⟩
  | 77 => ⟨S131072, .i32⟩
  | 78 => ⟨S131072, .i32⟩
  | 79 => ⟨S_, .i32⟩
  | 80 => ⟨S_, .i32⟩
  | 81 => ⟨S_, .i32⟩
  | 82 => ⟨S131072, .i32⟩
  | 83 => ⟨S131072, .i32⟩
  | 84 => ⟨S_, .i32⟩
  | 85 => ⟨S131072, .i32⟩
  | 86 => ⟨S131072, .i32⟩
  | 87 => ⟨S_, .i32⟩
  | 88 => ⟨S131072, .i32⟩
  | 89 => ⟨S131072, .i32⟩
  | 90 => ⟨S_, .i32⟩
  | 91 => ⟨S_, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S131072x1, .i32⟩
  | 113 => ⟨S131072x1, .i32⟩
  | 114 => ⟨S131072x2, .i32⟩
  | 115 => ⟨S32x131072, .f32⟩
  | 116 => ⟨S_, .i32⟩
  | 117 => ⟨S131072, .i32⟩
  | 118 => ⟨S131072, .i1⟩
  | 119 => ⟨S_, .i32⟩
  | 120 => ⟨S131072, .i32⟩
  | 121 => ⟨S131072, .i32⟩
  | 122 => ⟨S131072, .i32⟩
  | 123 => ⟨S_, .i32⟩
  | 124 => ⟨S131072, .i32⟩
  | 125 => ⟨S131072, .i1⟩
  | 126 => ⟨S_, .i32⟩
  | 127 => ⟨S131072, .i32⟩
  | _ => ⟨S4096x32x3, .f32⟩

abbrev hbmTy0_13 (i : Nat) : BufTy := match i % 128 with
  | 0 => ⟨S131072, .i32⟩
  | 1 => ⟨S131072, .i32⟩
  | 2 => ⟨S131072x1, .i32⟩
  | 3 => ⟨S131072x1, .i32⟩
  | 4 => ⟨S131072x2, .i32⟩
  | 5 => ⟨S32x131072, .f32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S131072x1, .i32⟩
  | 21 => ⟨S131072x1, .i32⟩
  | 22 => ⟨S131072x2, .i32⟩
  | 23 => ⟨S32x131072, .f32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x1, .i32⟩
  | 40 => ⟨S131072x2, .i32⟩
  | 41 => ⟨S32x131072, .f32⟩
  | 42 => ⟨S_, .f32⟩
  | 43 => ⟨S131072, .f32⟩
  | 44 => ⟨S131072, .f32⟩
  | 45 => ⟨S1x131072, .f32⟩
  | 46 => ⟨S32x131072, .f32⟩
  | 47 => ⟨S32x131072, .f32⟩
  | 48 => ⟨S_, .f32⟩
  | 49 => ⟨S131072, .f32⟩
  | 50 => ⟨S131072, .f32⟩
  | 51 => ⟨S1x131072, .f32⟩
  | 52 => ⟨S32x131072, .f32⟩
  | 53 => ⟨S32x131072, .f32⟩
  | 54 => ⟨S1x131072, .f32⟩
  | 55 => ⟨S32x131072, .f32⟩
  | 56 => ⟨S32x131072, .f32⟩
  | 57 => ⟨S_, .f32⟩
  | 58 => ⟨S131072, .f32⟩
  | 59 => ⟨S131072, .f32⟩
  | 60 => ⟨S1x131072, .f32⟩
  | 61 => ⟨S32x131072, .f32⟩
  | 62 => ⟨S32x131072, .f32⟩
  | 63 => ⟨S32x131072, .f32⟩
  | 64 => ⟨S_, .f32⟩
  | 65 => ⟨S131072, .f32⟩
  | 66 => ⟨S131072, .f32⟩
  | 67 => ⟨S1x131072, .f32⟩
  | 68 => ⟨S32x131072, .f32⟩
  | 69 => ⟨S32x131072, .f32⟩
  | 70 => ⟨S1x131072, .f32⟩
  | 71 => ⟨S32x131072, .f32⟩
  | 72 => ⟨S32x131072, .f32⟩
  | 73 => ⟨S32x131072, .f32⟩
  | 74 => ⟨S1x131072, .f32⟩
  | 75 => ⟨S32x131072, .f32⟩
  | 76 => ⟨S32x131072, .f32⟩
  | 77 => ⟨S1x131072, .f32⟩
  | 78 => ⟨S32x131072, .f32⟩
  | 79 => ⟨S32x131072, .f32⟩
  | 80 => ⟨S32x131072, .f32⟩
  | 81 => ⟨S131072x32, .f32⟩
  | 82 => ⟨S_, .i32⟩
  | 83 => ⟨S2, .i32⟩
  | 84 => ⟨S2, .i1⟩
  | 85 => ⟨S_, .i32⟩
  | 86 => ⟨S2, .i32⟩
  | 87 => ⟨S2, .i32⟩
  | 88 => ⟨S2, .i32⟩
  | 89 => ⟨S2x1, .i32⟩
  | 90 => ⟨S131072x2, .f32⟩
  | 91 => ⟨S131072x1, .f32⟩
  | 92 => ⟨S131072, .f32⟩
  | 93 => ⟨S_, .f32⟩
  | 94 => ⟨S131072, .f32⟩
  | 95 => ⟨S131072, .f32⟩
  | 96 => ⟨S_, .f32⟩
  | 97 => ⟨S131072, .f32⟩
  | 98 => ⟨S131072, .f32⟩
  | 99 => ⟨S_, .f32⟩
  | 100 => ⟨S131072, .f32⟩
  | 101 => ⟨S131072, .f32⟩
  | 102 => ⟨S131072x1, .f32⟩
  | 103 => ⟨S131072, .f32⟩
  | 104 => ⟨S_, .f32⟩
  | 105 => ⟨S131072, .f32⟩
  | 106 => ⟨S131072, .f32⟩
  | 107 => ⟨S_, .f32⟩
  | 108 => ⟨S131072, .f32⟩
  | 109 => ⟨S131072, .f32⟩
  | 110 => ⟨S_, .f32⟩
  | 111 => ⟨S131072, .f32⟩
  | 112 => ⟨S131072, .f32⟩
  | 113 => ⟨S131072, .f32⟩
  | 114 => ⟨S131072, .f32⟩
  | 115 => ⟨S131072, .f32⟩
  | 116 => ⟨S131072, .f32⟩
  | 117 => ⟨S131072, .i32⟩
  | 118 => ⟨S_, .i32⟩
  | 119 => ⟨S_, .i32⟩
  | 120 => ⟨S_, .i32⟩
  | 121 => ⟨S131072, .i32⟩
  | 122 => ⟨S131072, .i32⟩
  | 123 => ⟨S_, .i32⟩
  | 124 => ⟨S131072, .i32⟩
  | 125 => ⟨S131072, .i32⟩
  | 126 => ⟨S_, .i32⟩
  | 127 => ⟨S131072, .i32⟩
  | _ => ⟨S4096x32x3, .f32⟩

abbrev hbmTy0_14 (i : Nat) : BufTy := match i % 128 with
  | 0 => ⟨S131072, .i32⟩
  | 1 => ⟨S_, .i32⟩
  | 2 => ⟨S_, .i32⟩
  | 3 => ⟨S_, .i32⟩
  | 4 => ⟨S131072, .i32⟩
  | 5 => ⟨S131072, .i32⟩
  | 6 => ⟨S_, .i32⟩
  | 7 => ⟨S131072, .i32⟩
  | 8 => ⟨S131072, .i32⟩
  | 9 => ⟨S131072, .i32⟩
  | 10 => ⟨S_, .i32⟩
  | 11 => ⟨S_, .i32⟩
  | 12 => ⟨S_, .i32⟩
  | 13 => ⟨S131072, .i32⟩
  | 14 => ⟨S131072, .i32⟩
  | 15 => ⟨S_, .i32⟩
  | 16 => ⟨S131072, .i32⟩
  | 17 => ⟨S131072, .i32⟩
  | 18 => ⟨S_, .i32⟩
  | 19 => ⟨S131072, .i32⟩
  | 20 => ⟨S131072, .i32⟩
  | 21 => ⟨S_, .i32⟩
  | 22 => ⟨S_, .i32⟩
  | 23 => ⟨S_, .i32⟩
  | 24 => ⟨S131072, .i32⟩
  | 25 => ⟨S131072, .i32⟩
  | 26 => ⟨S_, .i32⟩
  | 27 => ⟨S131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S131072x1, .i32⟩
  | 45 => ⟨S131072x2, .i32⟩
  | 46 => ⟨S32x131072, .f32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S131072x1, .i32⟩
  | 63 => ⟨S131072x2, .i32⟩
  | 64 => ⟨S32x131072, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S131072x1, .i32⟩
  | 80 => ⟨S131072x1, .i32⟩
  | 81 => ⟨S131072x2, .i32⟩
  | 82 => ⟨S32x131072, .f32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S131072x1, .i32⟩
  | 99 => ⟨S131072x2, .i32⟩
  | 100 => ⟨S32x131072, .f32⟩
  | 101 => ⟨S_, .f32⟩
  | 102 => ⟨S131072, .f32⟩
  | 103 => ⟨S131072, .f32⟩
  | 104 => ⟨S1x131072, .f32⟩
  | 105 => ⟨S32x131072, .f32⟩
  | 106 => ⟨S32x131072, .f32⟩
  | 107 => ⟨S_, .f32⟩
  | 108 => ⟨S131072, .f32⟩
  | 109 => ⟨S131072, .f32⟩
  | 110 => ⟨S1x131072, .f32⟩
  | 111 => ⟨S32x131072, .f32⟩
  | 112 => ⟨S32x131072, .f32⟩
  | 113 => ⟨S1x131072, .f32⟩
  | 114 => ⟨S32x131072, .f32⟩
  | 115 => ⟨S32x131072, .f32⟩
  | 116 => ⟨S_, .f32⟩
  | 117 => ⟨S131072, .f32⟩
  | 118 => ⟨S131072, .f32⟩
  | 119 => ⟨S1x131072, .f32⟩
  | 120 => ⟨S32x131072, .f32⟩
  | 121 => ⟨S32x131072, .f32⟩
  | 122 => ⟨S32x131072, .f32⟩
  | 123 => ⟨S_, .f32⟩
  | 124 => ⟨S131072, .f32⟩
  | 125 => ⟨S131072, .f32⟩
  | 126 => ⟨S1x131072, .f32⟩
  | 127 => ⟨S32x131072, .f32⟩
  | _ => ⟨S4096x32x3, .f32⟩

abbrev hbmTy0_15 (i : Nat) : BufTy := match i % 128 with
  | 0 => ⟨S32x131072, .f32⟩
  | 1 => ⟨S1x131072, .f32⟩
  | 2 => ⟨S32x131072, .f32⟩
  | 3 => ⟨S32x131072, .f32⟩
  | 4 => ⟨S32x131072, .f32⟩
  | 5 => ⟨S1x131072, .f32⟩
  | 6 => ⟨S32x131072, .f32⟩
  | 7 => ⟨S32x131072, .f32⟩
  | 8 => ⟨S1x131072, .f32⟩
  | 9 => ⟨S32x131072, .f32⟩
  | 10 => ⟨S32x131072, .f32⟩
  | 11 => ⟨S32x131072, .f32⟩
  | 12 => ⟨S131072x32, .f32⟩
  | 13 => ⟨S_, .i32⟩
  | 14 => ⟨S2, .i32⟩
  | 15 => ⟨S2, .i1⟩
  | 16 => ⟨S_, .i32⟩
  | 17 => ⟨S2, .i32⟩
  | 18 => ⟨S2, .i32⟩
  | 19 => ⟨S2, .i32⟩
  | 20 => ⟨S2x1, .i32⟩
  | 21 => ⟨S131072x2, .f32⟩
  | 22 => ⟨S131072x1, .f32⟩
  | 23 => ⟨S131072, .f32⟩
  | 24 => ⟨S_, .f32⟩
  | 25 => ⟨S131072, .f32⟩
  | 26 => ⟨S131072, .f32⟩
  | 27 => ⟨S_, .f32⟩
  | 28 => ⟨S131072, .f32⟩
  | 29 => ⟨S131072, .f32⟩
  | 30 => ⟨S_, .f32⟩
  | 31 => ⟨S131072, .f32⟩
  | 32 => ⟨S131072, .f32⟩
  | 33 => ⟨S131072x1, .f32⟩
  | 34 => ⟨S131072, .f32⟩
  | 35 => ⟨S_, .f32⟩
  | 36 => ⟨S131072, .f32⟩
  | 37 => ⟨S131072, .f32⟩
  | 38 => ⟨S_, .f32⟩
  | 39 => ⟨S131072, .f32⟩
  | 40 => ⟨S131072, .f32⟩
  | 41 => ⟨S_, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072, .f32⟩
  | 48 => ⟨S131072, .i32⟩
  | 49 => ⟨S_, .i32⟩
  | 50 => ⟨S_, .i32⟩
  | 51 => ⟨S_, .i32⟩
  | 52 => ⟨S131072, .i32⟩
  | 53 => ⟨S131072, .i32⟩
  | 54 => ⟨S_, .i32⟩
  | 55 => ⟨S131072, .i32⟩
  | 56 => ⟨S131072, .i32⟩
  | 57 => ⟨S_, .i32⟩
  | 58 => ⟨S131072, .i32⟩
  | 59 => ⟨S131072, .i32⟩
  | 60 => ⟨S_, .i32⟩
  | 61 => ⟨S_, .i32⟩
  | 62 => ⟨S_, .i32⟩
  | 63 => ⟨S131072, .i32⟩
  | 64 => ⟨S131072, .i32⟩
  | 65 => ⟨S_, .i32⟩
  | 66 => ⟨S131072, .i32⟩
  | 67 => ⟨S131072, .i32⟩
  | 68 => ⟨S131072, .i32⟩
  | 69 => ⟨S_, .i32⟩
  | 70 => ⟨S_, .i32⟩
  | 71 => ⟨S_, .i32⟩
  | 72 => ⟨S131072, .i32⟩
  | 73 => ⟨S131072, .i32⟩
  | 74 => ⟨S_, .i32⟩
  | 75 => ⟨S131072, .i32⟩
  | 76 => ⟨S131072, .i32⟩
  | 77 => ⟨S_, .i32⟩
  | 78 => ⟨S131072, .i32⟩
  | 79 => ⟨S131072, .i32⟩
  | 80 => ⟨S_, .i32⟩
  | 81 => ⟨S_, .i32⟩
  | 82 => ⟨S_, .i32⟩
  | 83 => ⟨S131072, .i32⟩
  | 84 => ⟨S131072, .i32⟩
  | 85 => ⟨S_, .i32⟩
  | 86 => ⟨S131072, .i32⟩
  | 87 => ⟨S131072, .i32⟩
  | 88 => ⟨S_, .i32⟩
  | 89 => ⟨S131072, .i32⟩
  | 90 => ⟨S131072, .i1⟩
  | 91 => ⟨S_, .i32⟩
  | 92 => ⟨S131072, .i32⟩
  | 93 => ⟨S131072, .i32⟩
  | 94 => ⟨S131072, .i32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S131072x1, .i32⟩
  | 103 => ⟨S131072x1, .i32⟩
  | 104 => ⟨S131072x2, .i32⟩
  | 105 => ⟨S32x131072, .f32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x1, .i32⟩
  | 122 => ⟨S131072x2, .i32⟩
  | 123 => ⟨S32x131072, .f32⟩
  | 124 => ⟨S_, .i32⟩
  | 125 => ⟨S131072, .i32⟩
  | 126 => ⟨S131072, .i1⟩
  | 127 => ⟨S_, .i32⟩
  | _ => ⟨S4096x32x3, .f32⟩

abbrev hbmTy0_16 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x1, .i32⟩
  | 12 => ⟨S131072x2, .i32⟩
  | 13 => ⟨S32x131072, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S131072x1, .i32⟩
  | 30 => ⟨S131072x2, .i32⟩
  | 31 => ⟨S32x131072, .f32⟩
  | 32 => ⟨S_, .f32⟩
  | 33 => ⟨S131072, .f32⟩
  | 34 => ⟨S131072, .f32⟩
  | 35 => ⟨S1x131072, .f32⟩
  | 36 => ⟨S32x131072, .f32⟩
  | 37 => ⟨S32x131072, .f32⟩
  | 38 => ⟨S_, .f32⟩
  | 39 => ⟨S131072, .f32⟩
  | 40 => ⟨S131072, .f32⟩
  | 41 => ⟨S1x131072, .f32⟩
  | 42 => ⟨S32x131072, .f32⟩
  | 43 => ⟨S32x131072, .f32⟩
  | 44 => ⟨S1x131072, .f32⟩
  | 45 => ⟨S32x131072, .f32⟩
  | 46 => ⟨S32x131072, .f32⟩
  | 47 => ⟨S_, .f32⟩
  | 48 => ⟨S131072, .f32⟩
  | 49 => ⟨S131072, .f32⟩
  | 50 => ⟨S1x131072, .f32⟩
  | 51 => ⟨S32x131072, .f32⟩
  | 52 => ⟨S32x131072, .f32⟩
  | 53 => ⟨S32x131072, .f32⟩
  | 54 => ⟨S_, .f32⟩
  | 55 => ⟨S131072, .f32⟩
  | 56 => ⟨S131072, .f32⟩
  | 57 => ⟨S1x131072, .f32⟩
  | 58 => ⟨S32x131072, .f32⟩
  | 59 => ⟨S32x131072, .f32⟩
  | 60 => ⟨S1x131072, .f32⟩
  | 61 => ⟨S32x131072, .f32⟩
  | 62 => ⟨S32x131072, .f32⟩
  | 63 => ⟨S32x131072, .f32⟩
  | 64 => ⟨S1x131072, .f32⟩
  | 65 => ⟨S32x131072, .f32⟩
  | 66 => ⟨S32x131072, .f32⟩
  | 67 => ⟨S1x131072, .f32⟩
  | 68 => ⟨S32x131072, .f32⟩
  | 69 => ⟨S32x131072, .f32⟩
  | 70 => ⟨S32x131072, .f32⟩
  | 71 => ⟨S131072x32, .f32⟩
  | 72 => ⟨S_, .i32⟩
  | 73 => ⟨S2, .i32⟩
  | 74 => ⟨S2, .i1⟩
  | 75 => ⟨S_, .i32⟩
  | 76 => ⟨S2, .i32⟩
  | 77 => ⟨S2, .i32⟩
  | 78 => ⟨S2, .i32⟩
  | 79 => ⟨S2x1, .i32⟩
  | 80 => ⟨S131072x2, .f32⟩
  | 81 => ⟨S131072x1, .f32⟩
  | 82 => ⟨S131072, .f32⟩
  | 83 => ⟨S_, .f32⟩
  | 84 => ⟨S131072, .f32⟩
  | 85 => ⟨S131072, .f32⟩
  | 86 => ⟨S_, .f32⟩
  | 87 => ⟨S131072, .f32⟩
  | 88 => ⟨S131072, .f32⟩
  | 89 => ⟨S_, .f32⟩
  | 90 => ⟨S131072, .f32⟩
  | 91 => ⟨S131072, .f32⟩
  | 92 => ⟨S131072x1, .f32⟩
  | 93 => ⟨S131072, .f32⟩
  | 94 => ⟨S_, .f32⟩
  | 95 => ⟨S131072, .f32⟩
  | 96 => ⟨S131072, .f32⟩
  | 97 => ⟨S_, .f32⟩
  | 98 => ⟨S131072, .f32⟩
  | 99 => ⟨S131072, .f32⟩
  | 100 => ⟨S_, .f32⟩
  | 101 => ⟨S131072, .f32⟩
  | 102 => ⟨S131072, .f32⟩
  | 103 => ⟨S131072, .f32⟩
  | 104 => ⟨S131072, .f32⟩
  | 105 => ⟨S131072, .f32⟩
  | 106 => ⟨S131072, .f32⟩
  | 107 => ⟨S131072, .i32⟩
  | 108 => ⟨S_, .i32⟩
  | 109 => ⟨S_, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S131072, .i32⟩
  | 118 => ⟨S131072, .i32⟩
  | 119 => ⟨S_, .i32⟩
  | 120 => ⟨S_, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i32⟩
  | 127 => ⟨S131072, .i32⟩
  | _ => ⟨S4096x32x3, .f32⟩

abbrev hbmTy0_17 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S_, .i32⟩
  | 12 => ⟨S_, .i32⟩
  | 13 => ⟨S_, .i32⟩
  | 14 => ⟨S131072, .i32⟩
  | 15 => ⟨S131072, .i32⟩
  | 16 => ⟨S_, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072x1, .i32⟩
  | 35 => ⟨S131072x2, .i32⟩
  | 36 => ⟨S32x131072, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072x1, .i32⟩
  | 53 => ⟨S131072x2, .i32⟩
  | 54 => ⟨S32x131072, .f32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x1, .i32⟩
  | 71 => ⟨S131072x2, .i32⟩
  | 72 => ⟨S32x131072, .f32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x1, .i32⟩
  | 89 => ⟨S131072x2, .i32⟩
  | 90 => ⟨S32x131072, .f32⟩
  | 91 => ⟨S_, .f32⟩
  | 92 => ⟨S131072, .f32⟩
  | 93 => ⟨S131072, .f32⟩
  | 94 => ⟨S1x131072, .f32⟩
  | 95 => ⟨S32x131072, .f32⟩
  | 96 => ⟨S32x131072, .f32⟩
  | 97 => ⟨S_, .f32⟩
  | 98 => ⟨S131072, .f32⟩
  | 99 => ⟨S131072, .f32⟩
  | 100 => ⟨S1x131072, .f32⟩
  | 101 => ⟨S32x131072, .f32⟩
  | 102 => ⟨S32x131072, .f32⟩
  | 103 => ⟨S1x131072, .f32⟩
  | 104 => ⟨S32x131072, .f32⟩
  | 105 => ⟨S32x131072, .f32⟩
  | 106 => ⟨S_, .f32⟩
  | 107 => ⟨S131072, .f32⟩
  | 108 => ⟨S131072, .f32⟩
  | 109 => ⟨S1x131072, .f32⟩
  | 110 => ⟨S32x131072, .f32⟩
  | 111 => ⟨S32x131072, .f32⟩
  | 112 => ⟨S32x131072, .f32⟩
  | 113 => ⟨S_, .f32⟩
  | 114 => ⟨S131072, .f32⟩
  | 115 => ⟨S131072, .f32⟩
  | 116 => ⟨S1x131072, .f32⟩
  | 117 => ⟨S32x131072, .f32⟩
  | 118 => ⟨S32x131072, .f32⟩
  | 119 => ⟨S1x131072, .f32⟩
  | 120 => ⟨S32x131072, .f32⟩
  | 121 => ⟨S32x131072, .f32⟩
  | 122 => ⟨S32x131072, .f32⟩
  | 123 => ⟨S1x131072, .f32⟩
  | 124 => ⟨S32x131072, .f32⟩
  | 125 => ⟨S32x131072, .f32⟩
  | 126 => ⟨S1x131072, .f32⟩
  | 127 => ⟨S32x131072, .f32⟩
  | _ => ⟨S4096x32x3, .f32⟩

abbrev hbmTy0_18 (i : Nat) : BufTy := match i % 128 with
  | 0 => ⟨S32x131072, .f32⟩
  | 1 => ⟨S32x131072, .f32⟩
  | 2 => ⟨S131072x32, .f32⟩
  | 3 => ⟨S_, .i32⟩
  | 4 => ⟨S2, .i32⟩
  | 5 => ⟨S2, .i1⟩
  | 6 => ⟨S_, .i32⟩
  | 7 => ⟨S2, .i32⟩
  | 8 => ⟨S2, .i32⟩
  | 9 => ⟨S2, .i32⟩
  | 10 => ⟨S2x1, .i32⟩
  | 11 => ⟨S131072x2, .f32⟩
  | 12 => ⟨S131072x1, .f32⟩
  | 13 => ⟨S131072, .f32⟩
  | 14 => ⟨S_, .f32⟩
  | 15 => ⟨S131072, .f32⟩
  | 16 => ⟨S131072, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072x1, .f32⟩
  | 24 => ⟨S131072, .f32⟩
  | 25 => ⟨S_, .f32⟩
  | 26 => ⟨S131072, .f32⟩
  | 27 => ⟨S131072, .f32⟩
  | 28 => ⟨S_, .f32⟩
  | 29 => ⟨S131072, .f32⟩
  | 30 => ⟨S131072, .f32⟩
  | 31 => ⟨S_, .f32⟩
  | 32 => ⟨S131072, .f32⟩
  | 33 => ⟨S131072, .f32⟩
  | 34 => ⟨S131072, .f32⟩
  | 35 => ⟨S131072, .f32⟩
  | 36 => ⟨S131072, .f32⟩
  | 37 => ⟨S131072, .f32⟩
  | 38 => ⟨S131072, .i32⟩
  | 39 => ⟨S_, .i32⟩
  | 40 => ⟨S_, .i32⟩
  | 41 => ⟨S_, .i32⟩
  | 42 => ⟨S131072, .i32⟩
  | 43 => ⟨S131072, .i32⟩
  | 44 => ⟨S_, .i32⟩
  | 45 => ⟨S131072, .i32⟩
  | 46 => ⟨S131072, .i32⟩
  | 47 => ⟨S_, .i32⟩
  | 48 => ⟨S131072, .i32⟩
  | 49 => ⟨S131072, .i32⟩
  | 50 => ⟨S_, .i32⟩
  | 51 => ⟨S_, .i32⟩
  | 52 => ⟨S_, .i32⟩
  | 53 => ⟨S131072, .i32⟩
  | 54 => ⟨S131072, .i32⟩
  | 55 => ⟨S_, .i32⟩
  | 56 => ⟨S131072, .i32⟩
  | 57 => ⟨S131072, .i32⟩
  | 58 => ⟨S131072, .i32⟩
  | 59 => ⟨S_, .i32⟩
  | 60 => ⟨S_, .i32⟩
  | 61 => ⟨S_, .i32⟩
  | 62 => ⟨S131072, .i32⟩
  | 63 => ⟨S131072, .i32⟩
  | 64 => ⟨S_, .i32⟩
  | 65 => ⟨S131072, .i32⟩
  | 66 => ⟨S131072, .i32⟩
  | 67 => ⟨S_, .i32⟩
  | 68 => ⟨S131072, .i32⟩
  | 69 => ⟨S131072, .i32⟩
  | 70 => ⟨S_, .i32⟩
  | 71 => ⟨S_, .i32⟩
  | 72 => ⟨S_, .i32⟩
  | 73 => ⟨S131072, .i32⟩
  | 74 => ⟨S131072, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S131072x1, .i32⟩
  | 93 => ⟨S131072x1, .i32⟩
  | 94 => ⟨S131072x2, .i32⟩
  | 95 => ⟨S32x131072, .f32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x1, .i32⟩
  | 112 => ⟨S131072x2, .i32⟩
  | 113 => ⟨S32x131072, .f32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S4096x32x3, .f32⟩

abbrev hbmTy0_19 (i : Nat) : BufTy := match i % 128 with
  | 0 => ⟨S131072x1, .i32⟩
  | 1 => ⟨S131072x1, .i32⟩
  | 2 => ⟨S131072x2, .i32⟩
  | 3 => ⟨S32x131072, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S131072x1, .i32⟩
  | 20 => ⟨S131072x2, .i32⟩
  | 21 => ⟨S32x131072, .f32⟩
  | 22 => ⟨S_, .f32⟩
  | 23 => ⟨S131072, .f32⟩
  | 24 => ⟨S131072, .f32⟩
  | 25 => ⟨S1x131072, .f32⟩
  | 26 => ⟨S32x131072, .f32⟩
  | 27 => ⟨S32x131072, .f32⟩
  | 28 => ⟨S_, .f32⟩
  | 29 => ⟨S131072, .f32⟩
  | 30 => ⟨S131072, .f32⟩
  | 31 => ⟨S1x131072, .f32⟩
  | 32 => ⟨S32x131072, .f32⟩
  | 33 => ⟨S32x131072, .f32⟩
  | 34 => ⟨S1x131072, .f32⟩
  | 35 => ⟨S32x131072, .f32⟩
  | 36 => ⟨S32x131072, .f32⟩
  | 37 => ⟨S_, .f32⟩
  | 38 => ⟨S131072, .f32⟩
  | 39 => ⟨S131072, .f32⟩
  | 40 => ⟨S1x131072, .f32⟩
  | 41 => ⟨S32x131072, .f32⟩
  | 42 => ⟨S32x131072, .f32⟩
  | 43 => ⟨S32x131072, .f32⟩
  | 44 => ⟨S_, .f32⟩
  | 45 => ⟨S131072, .f32⟩
  | 46 => ⟨S131072, .f32⟩
  | 47 => ⟨S1x131072, .f32⟩
  | 48 => ⟨S32x131072, .f32⟩
  | 49 => ⟨S32x131072, .f32⟩
  | 50 => ⟨S1x131072, .f32⟩
  | 51 => ⟨S32x131072, .f32⟩
  | 52 => ⟨S32x131072, .f32⟩
  | 53 => ⟨S32x131072, .f32⟩
  | 54 => ⟨S1x131072, .f32⟩
  | 55 => ⟨S32x131072, .f32⟩
  | 56 => ⟨S32x131072, .f32⟩
  | 57 => ⟨S1x131072, .f32⟩
  | 58 => ⟨S32x131072, .f32⟩
  | 59 => ⟨S32x131072, .f32⟩
  | 60 => ⟨S32x131072, .f32⟩
  | 61 => ⟨S131072x32, .f32⟩
  | 62 => ⟨S_, .i32⟩
  | 63 => ⟨S2, .i32⟩
  | 64 => ⟨S2, .i1⟩
  | 65 => ⟨S_, .i32⟩
  | 66 => ⟨S2, .i32⟩
  | 67 => ⟨S2, .i32⟩
  | 68 => ⟨S2, .i32⟩
  | 69 => ⟨S2x1, .i32⟩
  | 70 => ⟨S131072x2, .f32⟩
  | 71 => ⟨S131072x1, .f32⟩
  | 72 => ⟨S131072, .f32⟩
  | 73 => ⟨S_, .f32⟩
  | 74 => ⟨S131072, .f32⟩
  | 75 => ⟨S131072, .f32⟩
  | 76 => ⟨S_, .f32⟩
  | 77 => ⟨S131072, .f32⟩
  | 78 => ⟨S131072, .f32⟩
  | 79 => ⟨S_, .f32⟩
  | 80 => ⟨S131072, .f32⟩
  | 81 => ⟨S131072, .f32⟩
  | 82 => ⟨S131072x1, .f32⟩
  | 83 => ⟨S131072, .f32⟩
  | 84 => ⟨S_, .f32⟩
  | 85 => ⟨S131072, .f32⟩
  | 86 => ⟨S131072, .f32⟩
  | 87 => ⟨S_, .f32⟩
  | 88 => ⟨S131072, .f32⟩
  | 89 => ⟨S131072, .f32⟩
  | 90 => ⟨S_, .f32⟩
  | 91 => ⟨S131072, .f32⟩
  | 92 => ⟨S131072, .f32⟩
  | 93 => ⟨S131072, .f32⟩
  | 94 => ⟨S131072, .f32⟩
  | 95 => ⟨S131072, .f32⟩
  | 96 => ⟨S131072, .f32⟩
  | 97 => ⟨S131072, .i32⟩
  | 98 => ⟨S_, .i32⟩
  | 99 => ⟨S_, .i32⟩
  | 100 => ⟨S_, .i32⟩
  | 101 => ⟨S131072, .i32⟩
  | 102 => ⟨S131072, .i32⟩
  | 103 => ⟨S_, .i32⟩
  | 104 => ⟨S131072, .i32⟩
  | 105 => ⟨S131072, .i32⟩
  | 106 => ⟨S_, .i32⟩
  | 107 => ⟨S131072, .i32⟩
  | 108 => ⟨S131072, .i32⟩
  | 109 => ⟨S_, .i32⟩
  | 110 => ⟨S_, .i32⟩
  | 111 => ⟨S_, .i32⟩
  | 112 => ⟨S131072, .i32⟩
  | 113 => ⟨S131072, .i32⟩
  | 114 => ⟨S_, .i32⟩
  | 115 => ⟨S131072, .i32⟩
  | 116 => ⟨S131072, .i32⟩
  | 117 => ⟨S131072, .i32⟩
  | 118 => ⟨S_, .i32⟩
  | 119 => ⟨S_, .i32⟩
  | 120 => ⟨S_, .i32⟩
  | 121 => ⟨S131072, .i32⟩
  | 122 => ⟨S131072, .i32⟩
  | 123 => ⟨S_, .i32⟩
  | 124 => ⟨S131072, .i32⟩
  | 125 => ⟨S131072, .i32⟩
  | 126 => ⟨S_, .i32⟩
  | 127 => ⟨S131072, .i32⟩
  | _ => ⟨S4096x32x3, .f32⟩

abbrev hbmTy0_20 (i : Nat) : BufTy := match i % 128 with
  | 0 => ⟨S131072, .i32⟩
  | 1 => ⟨S_, .i32⟩
  | 2 => ⟨S_, .i32⟩
  | 3 => ⟨S_, .i32⟩
  | 4 => ⟨S131072, .i32⟩
  | 5 => ⟨S131072, .i32⟩
  | 6 => ⟨S_, .i32⟩
  | 7 => ⟨S131072, .i32⟩
  | 8 => ⟨S131072, .i32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S131072x1, .i32⟩
  | 24 => ⟨S131072x1, .i32⟩
  | 25 => ⟨S131072x2, .i32⟩
  | 26 => ⟨S32x131072, .f32⟩
  | 27 => ⟨S_, .i32⟩
  | 28 => ⟨S131072, .i32⟩
  | 29 => ⟨S131072, .i1⟩
  | 30 => ⟨S_, .i32⟩
  | 31 => ⟨S131072, .i32⟩
  | 32 => ⟨S131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S131072x1, .i32⟩
  | 43 => ⟨S131072x2, .i32⟩
  | 44 => ⟨S32x131072, .f32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S131072x1, .i32⟩
  | 61 => ⟨S131072x2, .i32⟩
  | 62 => ⟨S32x131072, .f32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S_, .i32⟩
  | 71 => ⟨S131072, .i32⟩
  | 72 => ⟨S131072, .i1⟩
  | 73 => ⟨S_, .i32⟩
  | 74 => ⟨S131072, .i32⟩
  | 75 => ⟨S131072, .i32⟩
  | 76 => ⟨S131072, .i32⟩
  | 77 => ⟨S131072x1, .i32⟩
  | 78 => ⟨S131072x1, .i32⟩
  | 79 => ⟨S131072x2, .i32⟩
  | 80 => ⟨S32x131072, .f32⟩
  | 81 => ⟨S_, .f32⟩
  | 82 => ⟨S131072, .f32⟩
  | 83 => ⟨S131072, .f32⟩
  | 84 => ⟨S1x131072, .f32⟩
  | 85 => ⟨S32x131072, .f32⟩
  | 86 => ⟨S32x131072, .f32⟩
  | 87 => ⟨S_, .f32⟩
  | 88 => ⟨S131072, .f32⟩
  | 89 => ⟨S131072, .f32⟩
  | 90 => ⟨S1x131072, .f32⟩
  | 91 => ⟨S32x131072, .f32⟩
  | 92 => ⟨S32x131072, .f32⟩
  | 93 => ⟨S1x131072, .f32⟩
  | 94 => ⟨S32x131072, .f32⟩
  | 95 => ⟨S32x131072, .f32⟩
  | 96 => ⟨S_, .f32⟩
  | 97 => ⟨S131072, .f32⟩
  | 98 => ⟨S131072, .f32⟩
  | 99 => ⟨S1x131072, .f32⟩
  | 100 => ⟨S32x131072, .f32⟩
  | 101 => ⟨S32x131072, .f32⟩
  | 102 => ⟨S32x131072, .f32⟩
  | 103 => ⟨S_, .f32⟩
  | 104 => ⟨S131072, .f32⟩
  | 105 => ⟨S131072, .f32⟩
  | 106 => ⟨S1x131072, .f32⟩
  | 107 => ⟨S32x131072, .f32⟩
  | 108 => ⟨S32x131072, .f32⟩
  | 109 => ⟨S1x131072, .f32⟩
  | 110 => ⟨S32x131072, .f32⟩
  | 111 => ⟨S32x131072, .f32⟩
  | 112 => ⟨S32x131072, .f32⟩
  | 113 => ⟨S1x131072, .f32⟩
  | 114 => ⟨S32x131072, .f32⟩
  | 115 => ⟨S32x131072, .f32⟩
  | 116 => ⟨S1x131072, .f32⟩
  | 117 => ⟨S32x131072, .f32⟩
  | 118 => ⟨S32x131072, .f32⟩
  | 119 => ⟨S32x131072, .f32⟩
  | 120 => ⟨S131072x32, .f32⟩
  | 121 => ⟨S_, .i32⟩
  | 122 => ⟨S2, .i32⟩
  | 123 => ⟨S2, .i1⟩
  | 124 => ⟨S_, .i32⟩
  | 125 => ⟨S2, .i32⟩
  | 126 => ⟨S2, .i32⟩
  | 127 => ⟨S2, .i32⟩
  | _ => ⟨S4096x32x3, .f32⟩

abbrev hbmTy0_21 (i : Nat) : BufTy := match i % 128 with
  | 0 => ⟨S2x1, .i32⟩
  | 1 => ⟨S131072x2, .f32⟩
  | 2 => ⟨S131072x1, .f32⟩
  | 3 => ⟨S131072, .f32⟩
  | 4 => ⟨S_, .f32⟩
  | 5 => ⟨S131072, .f32⟩
  | 6 => ⟨S131072, .f32⟩
  | 7 => ⟨S_, .f32⟩
  | 8 => ⟨S131072, .f32⟩
  | 9 => ⟨S131072, .f32⟩
  | 10 => ⟨S_, .f32⟩
  | 11 => ⟨S131072, .f32⟩
  | 12 => ⟨S131072, .f32⟩
  | 13 => ⟨S131072x1, .f32⟩
  | 14 => ⟨S131072, .f32⟩
  | 15 => ⟨S_, .f32⟩
  | 16 => ⟨S131072, .f32⟩
  | 17 => ⟨S131072, .f32⟩
  | 18 => ⟨S_, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .f32⟩
  | 25 => ⟨S131072, .f32⟩
  | 26 => ⟨S131072, .f32⟩
  | 27 => ⟨S131072, .f32⟩
  | 28 => ⟨S131072, .i32⟩
  | 29 => ⟨S_, .i32⟩
  | 30 => ⟨S_, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i32⟩
  | 37 => ⟨S_, .i32⟩
  | 38 => ⟨S131072, .i32⟩
  | 39 => ⟨S131072, .i32⟩
  | 40 => ⟨S_, .i32⟩
  | 41 => ⟨S_, .i32⟩
  | 42 => ⟨S_, .i32⟩
  | 43 => ⟨S131072, .i32⟩
  | 44 => ⟨S131072, .i32⟩
  | 45 => ⟨S_, .i32⟩
  | 46 => ⟨S131072, .i32⟩
  | 47 => ⟨S131072, .i32⟩
  | 48 => ⟨S131072, .i32⟩
  | 49 => ⟨S_, .i32⟩
  | 50 => ⟨S_, .i32⟩
  | 51 => ⟨S_, .i32⟩
  | 52 => ⟨S131072, .i32⟩
  | 53 => ⟨S131072, .i32⟩
  | 54 => ⟨S_, .i32⟩
  | 55 => ⟨S131072, .i32⟩
  | 56 => ⟨S131072, .i32⟩
  | 57 => ⟨S_, .i32⟩
  | 58 => ⟨S131072, .i32⟩
  | 59 => ⟨S131072, .i32⟩
  | 60 => ⟨S_, .i32⟩
  | 61 => ⟨S_, .i32⟩
  | 62 => ⟨S_, .i32⟩
  | 63 => ⟨S131072, .i32⟩
  | 64 => ⟨S131072, .i32⟩
  | 65 => ⟨S_, .i32⟩
  | 66 => ⟨S131072, .i32⟩
  | 67 => ⟨S131072, .i32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S_, .i32⟩
  | 76 => ⟨S131072, .i32⟩
  | 77 => ⟨S131072, .i1⟩
  | 78 => ⟨S_, .i32⟩
  | 79 => ⟨S131072, .i32⟩
  | 80 => ⟨S131072, .i32⟩
  | 81 => ⟨S131072, .i32⟩
  | 82 => ⟨S131072x1, .i32⟩
  | 83 => ⟨S131072x1, .i32⟩
  | 84 => ⟨S131072x2, .i32⟩
  | 85 => ⟨S32x131072, .f32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S_, .i32⟩
  | 94 => ⟨S131072, .i32⟩
  | 95 => ⟨S131072, .i1⟩
  | 96 => ⟨S_, .i32⟩
  | 97 => ⟨S131072, .i32⟩
  | 98 => ⟨S131072, .i32⟩
  | 99 => ⟨S131072, .i32⟩
  | 100 => ⟨S131072x1, .i32⟩
  | 101 => ⟨S131072x1, .i32⟩
  | 102 => ⟨S131072x2, .i32⟩
  | 103 => ⟨S32x131072, .f32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S_, .i32⟩
  | 112 => ⟨S131072, .i32⟩
  | 113 => ⟨S131072, .i1⟩
  | 114 => ⟨S_, .i32⟩
  | 115 => ⟨S131072, .i32⟩
  | 116 => ⟨S131072, .i32⟩
  | 117 => ⟨S131072, .i32⟩
  | 118 => ⟨S131072x1, .i32⟩
  | 119 => ⟨S131072x1, .i32⟩
  | 120 => ⟨S131072x2, .i32⟩
  | 121 => ⟨S32x131072, .f32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S4096x32x3, .f32⟩

abbrev hbmTy0_22 (i : Nat) : BufTy := match i % 128 with
  | 0 => ⟨S131072, .i32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x1, .i32⟩
  | 10 => ⟨S131072x2, .i32⟩
  | 11 => ⟨S32x131072, .f32⟩
  | 12 => ⟨S_, .f32⟩
  | 13 => ⟨S131072, .f32⟩
  | 14 => ⟨S131072, .f32⟩
  | 15 => ⟨S1x131072, .f32⟩
  | 16 => ⟨S32x131072, .f32⟩
  | 17 => ⟨S32x131072, .f32⟩
  | 18 => ⟨S_, .f32⟩
  | 19 => ⟨S131072, .f32⟩
  | 20 => ⟨S131072, .f32⟩
  | 21 => ⟨S1x131072, .f32⟩
  | 22 => ⟨S32x131072, .f32⟩
  | 23 => ⟨S32x131072, .f32⟩
  | 24 => ⟨S1x131072, .f32⟩
  | 25 => ⟨S32x131072, .f32⟩
  | 26 => ⟨S32x131072, .f32⟩
  | 27 => ⟨S_, .f32⟩
  | 28 => ⟨S131072, .f32⟩
  | 29 => ⟨S131072, .f32⟩
  | 30 => ⟨S1x131072, .f32⟩
  | 31 => ⟨S32x131072, .f32⟩
  | 32 => ⟨S32x131072, .f32⟩
  | 33 => ⟨S32x131072, .f32⟩
  | 34 => ⟨S_, .f32⟩
  | 35 => ⟨S131072, .f32⟩
  | 36 => ⟨S131072, .f32⟩
  | 37 => ⟨S1x131072, .f32⟩
  | 38 => ⟨S32x131072, .f32⟩
  | 39 => ⟨S32x131072, .f32⟩
  | 40 => ⟨S1x131072, .f32⟩
  | 41 => ⟨S32x131072, .f32⟩
  | 42 => ⟨S32x131072, .f32⟩
  | 43 => ⟨S32x131072, .f32⟩
  | 44 => ⟨S1x131072, .f32⟩
  | 45 => ⟨S32x131072, .f32⟩
  | 46 => ⟨S32x131072, .f32⟩
  | 47 => ⟨S1x131072, .f32⟩
  | 48 => ⟨S32x131072, .f32⟩
  | 49 => ⟨S32x131072, .f32⟩
  | 50 => ⟨S32x131072, .f32⟩
  | 51 => ⟨S131072x32, .f32⟩
  | 52 => ⟨S_, .i32⟩
  | 53 => ⟨S2, .i32⟩
  | 54 => ⟨S2, .i1⟩
  | 55 => ⟨S_, .i32⟩
  | 56 => ⟨S2, .i32⟩
  | 57 => ⟨S2, .i32⟩
  | 58 => ⟨S2, .i32⟩
  | 59 => ⟨S2x1, .i32⟩
  | 60 => ⟨S131072x2, .f32⟩
  | 61 => ⟨S131072x1, .f32⟩
  | 62 => ⟨S131072, .f32⟩
  | 63 => ⟨S_, .f32⟩
  | 64 => ⟨S131072, .f32⟩
  | 65 => ⟨S131072, .f32⟩
  | 66 => ⟨S_, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072x1, .f32⟩
  | 73 => ⟨S131072, .f32⟩
  | 74 => ⟨S_, .f32⟩
  | 75 => ⟨S131072, .f32⟩
  | 76 => ⟨S131072, .f32⟩
  | 77 => ⟨S_, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072, .f32⟩
  | 84 => ⟨S131072, .f32⟩
  | 85 => ⟨S131072, .f32⟩
  | 86 => ⟨S131072, .f32⟩
  | 87 => ⟨S131072, .i32⟩
  | 88 => ⟨S_, .i32⟩
  | 89 => ⟨S_, .i32⟩
  | 90 => ⟨S_, .i32⟩
  | 91 => ⟨S131072, .i32⟩
  | 92 => ⟨S131072, .i32⟩
  | 93 => ⟨S_, .i32⟩
  | 94 => ⟨S131072, .i32⟩
  | 95 => ⟨S131072, .i32⟩
  | 96 => ⟨S_, .i32⟩
  | 97 => ⟨S131072, .i32⟩
  | 98 => ⟨S131072, .i32⟩
  | 99 => ⟨S_, .i32⟩
  | 100 => ⟨S_, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i32⟩
  | 107 => ⟨S131072, .i32⟩
  | 108 => ⟨S_, .i32⟩
  | 109 => ⟨S_, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S131072, .i32⟩
  | 118 => ⟨S131072, .i32⟩
  | 119 => ⟨S_, .i32⟩
  | 120 => ⟨S_, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i32⟩
  | 127 => ⟨S_, .i32⟩
  | _ => ⟨S4096x32x3, .f32⟩

abbrev hbmTy0_23 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S131072x1, .i32⟩
  | 14 => ⟨S131072x1, .i32⟩
  | 15 => ⟨S131072x2, .i32⟩
  | 16 => ⟨S32x131072, .f32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S131072x1, .i32⟩
  | 33 => ⟨S131072x2, .i32⟩
  | 34 => ⟨S32x131072, .f32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x1, .i32⟩
  | 51 => ⟨S131072x2, .i32⟩
  | 52 => ⟨S32x131072, .f32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x1, .i32⟩
  | 69 => ⟨S131072x2, .i32⟩
  | 70 => ⟨S32x131072, .f32⟩
  | 71 => ⟨S_, .f32⟩
  | 72 => ⟨S131072, .f32⟩
  | 73 => ⟨S131072, .f32⟩
  | 74 => ⟨S1x131072, .f32⟩
  | 75 => ⟨S32x131072, .f32⟩
  | 76 => ⟨S32x131072, .f32⟩
  | 77 => ⟨S_, .f32⟩
  | 78 => ⟨S131072, .f32⟩
  | 79 => ⟨S131072, .f32⟩
  | 80 => ⟨S1x131072, .f32⟩
  | 81 => ⟨S32x131072, .f32⟩
  | 82 => ⟨S32x131072, .f32⟩
  | 83 => ⟨S1x131072, .f32⟩
  | 84 => ⟨S32x131072, .f32⟩
  | 85 => ⟨S32x131072, .f32⟩
  | 86 => ⟨S_, .f32⟩
  | 87 => ⟨S131072, .f32⟩
  | 88 => ⟨S131072, .f32⟩
  | 89 => ⟨S1x131072, .f32⟩
  | 90 => ⟨S32x131072, .f32⟩
  | 91 => ⟨S32x131072, .f32⟩
  | 92 => ⟨S32x131072, .f32⟩
  | 93 => ⟨S_, .f32⟩
  | 94 => ⟨S131072, .f32⟩
  | 95 => ⟨S131072, .f32⟩
  | 96 => ⟨S1x131072, .f32⟩
  | 97 => ⟨S32x131072, .f32⟩
  | 98 => ⟨S32x131072, .f32⟩
  | 99 => ⟨S1x131072, .f32⟩
  | 100 => ⟨S32x131072, .f32⟩
  | 101 => ⟨S32x131072, .f32⟩
  | 102 => ⟨S32x131072, .f32⟩
  | 103 => ⟨S1x131072, .f32⟩
  | 104 => ⟨S32x131072, .f32⟩
  | 105 => ⟨S32x131072, .f32⟩
  | 106 => ⟨S1x131072, .f32⟩
  | 107 => ⟨S32x131072, .f32⟩
  | 108 => ⟨S32x131072, .f32⟩
  | 109 => ⟨S32x131072, .f32⟩
  | 110 => ⟨S131072x32, .f32⟩
  | 111 => ⟨S_, .i32⟩
  | 112 => ⟨S2, .i32⟩
  | 113 => ⟨S2, .i1⟩
  | 114 => ⟨S_, .i32⟩
  | 115 => ⟨S2, .i32⟩
  | 116 => ⟨S2, .i32⟩
  | 117 => ⟨S2, .i32⟩
  | 118 => ⟨S2x1, .i32⟩
  | 119 => ⟨S131072x2, .f32⟩
  | 120 => ⟨S131072x1, .f32⟩
  | 121 => ⟨S131072, .f32⟩
  | 122 => ⟨S_, .f32⟩
  | 123 => ⟨S131072, .f32⟩
  | 124 => ⟨S131072, .f32⟩
  | 125 => ⟨S_, .f32⟩
  | 126 => ⟨S131072, .f32⟩
  | 127 => ⟨S131072, .f32⟩
  | _ => ⟨S4096x32x3, .f32⟩

abbrev hbmTy0_24 (i : Nat) : BufTy := match i % 128 with
  | 0 => ⟨S_, .f32⟩
  | 1 => ⟨S131072, .f32⟩
  | 2 => ⟨S131072, .f32⟩
  | 3 => ⟨S131072x1, .f32⟩
  | 4 => ⟨S131072, .f32⟩
  | 5 => ⟨S_, .f32⟩
  | 6 => ⟨S131072, .f32⟩
  | 7 => ⟨S131072, .f32⟩
  | 8 => ⟨S_, .f32⟩
  | 9 => ⟨S131072, .f32⟩
  | 10 => ⟨S131072, .f32⟩
  | 11 => ⟨S_, .f32⟩
  | 12 => ⟨S131072, .f32⟩
  | 13 => ⟨S131072, .f32⟩
  | 14 => ⟨S131072, .f32⟩
  | 15 => ⟨S131072, .f32⟩
  | 16 => ⟨S131072, .f32⟩
  | 17 => ⟨S131072, .f32⟩
  | 18 => ⟨S131072, .i32⟩
  | 19 => ⟨S_, .i32⟩
  | 20 => ⟨S_, .i32⟩
  | 21 => ⟨S_, .i32⟩
  | 22 => ⟨S131072, .i32⟩
  | 23 => ⟨S131072, .i32⟩
  | 24 => ⟨S_, .i32⟩
  | 25 => ⟨S131072, .i32⟩
  | 26 => ⟨S131072, .i32⟩
  | 27 => ⟨S_, .i32⟩
  | 28 => ⟨S131072, .i32⟩
  | 29 => ⟨S131072, .i32⟩
  | 30 => ⟨S_, .i32⟩
  | 31 => ⟨S_, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i32⟩
  | 38 => ⟨S131072, .i32⟩
  | 39 => ⟨S_, .i32⟩
  | 40 => ⟨S_, .i32⟩
  | 41 => ⟨S_, .i32⟩
  | 42 => ⟨S131072, .i32⟩
  | 43 => ⟨S131072, .i32⟩
  | 44 => ⟨S_, .i32⟩
  | 45 => ⟨S131072, .i32⟩
  | 46 => ⟨S131072, .i32⟩
  | 47 => ⟨S_, .i32⟩
  | 48 => ⟨S131072, .i32⟩
  | 49 => ⟨S131072, .i32⟩
  | 50 => ⟨S_, .i32⟩
  | 51 => ⟨S_, .i32⟩
  | 52 => ⟨S_, .i32⟩
  | 53 => ⟨S131072, .i32⟩
  | 54 => ⟨S131072, .i32⟩
  | 55 => ⟨S_, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x1, .i32⟩
  | 74 => ⟨S131072x2, .i32⟩
  | 75 => ⟨S32x131072, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S131072x1, .i32⟩
  | 91 => ⟨S131072x1, .i32⟩
  | 92 => ⟨S131072x2, .i32⟩
  | 93 => ⟨S32x131072, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S131072x1, .i32⟩
  | 109 => ⟨S131072x1, .i32⟩
  | 110 => ⟨S131072x2, .i32⟩
  | 111 => ⟨S32x131072, .f32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072x1, .i32⟩
  | _ => ⟨S4096x32x3, .f32⟩

abbrev hbmTy0_25 (i : Nat) : BufTy := match i % 128 with
  | 0 => ⟨S131072x2, .i32⟩
  | 1 => ⟨S32x131072, .f32⟩
  | 2 => ⟨S_, .f32⟩
  | 3 => ⟨S131072, .f32⟩
  | 4 => ⟨S131072, .f32⟩
  | 5 => ⟨S1x131072, .f32⟩
  | 6 => ⟨S32x131072, .f32⟩
  | 7 => ⟨S32x131072, .f32⟩
  | 8 => ⟨S_, .f32⟩
  | 9 => ⟨S131072, .f32⟩
  | 10 => ⟨S131072, .f32⟩
  | 11 => ⟨S1x131072, .f32⟩
  | 12 => ⟨S32x131072, .f32⟩
  | 13 => ⟨S32x131072, .f32⟩
  | 14 => ⟨S1x131072, .f32⟩
  | 15 => ⟨S32x131072, .f32⟩
  | 16 => ⟨S32x131072, .f32⟩
  | 17 => ⟨S_, .f32⟩
  | 18 => ⟨S131072, .f32⟩
  | 19 => ⟨S131072, .f32⟩
  | 20 => ⟨S1x131072, .f32⟩
  | 21 => ⟨S32x131072, .f32⟩
  | 22 => ⟨S32x131072, .f32⟩
  | 23 => ⟨S32x131072, .f32⟩
  | 24 => ⟨S_, .f32⟩
  | 25 => ⟨S131072, .f32⟩
  | 26 => ⟨S131072, .f32⟩
  | 27 => ⟨S1x131072, .f32⟩
  | 28 => ⟨S32x131072, .f32⟩
  | 29 => ⟨S32x131072, .f32⟩
  | 30 => ⟨S1x131072, .f32⟩
  | 31 => ⟨S32x131072, .f32⟩
  | 32 => ⟨S32x131072, .f32⟩
  | 33 => ⟨S32x131072, .f32⟩
  | 34 => ⟨S1x131072, .f32⟩
  | 35 => ⟨S32x131072, .f32⟩
  | 36 => ⟨S32x131072, .f32⟩
  | 37 => ⟨S1x131072, .f32⟩
  | 38 => ⟨S32x131072, .f32⟩
  | 39 => ⟨S32x131072, .f32⟩
  | 40 => ⟨S32x131072, .f32⟩
  | 41 => ⟨S131072x32, .f32⟩
  | 42 => ⟨S_, .i32⟩
  | 43 => ⟨S2, .i32⟩
  | 44 => ⟨S2, .i1⟩
  | 45 => ⟨S_, .i32⟩
  | 46 => ⟨S2, .i32⟩
  | 47 => ⟨S2, .i32⟩
  | 48 => ⟨S2, .i32⟩
  | 49 => ⟨S2x1, .i32⟩
  | 50 => ⟨S131072x2, .f32⟩
  | 51 => ⟨S131072x1, .f32⟩
  | 52 => ⟨S131072, .f32⟩
  | 53 => ⟨S_, .f32⟩
  | 54 => ⟨S131072, .f32⟩
  | 55 => ⟨S131072, .f32⟩
  | 56 => ⟨S_, .f32⟩
  | 57 => ⟨S131072, .f32⟩
  | 58 => ⟨S131072, .f32⟩
  | 59 => ⟨S_, .f32⟩
  | 60 => ⟨S131072, .f32⟩
  | 61 => ⟨S131072, .f32⟩
  | 62 => ⟨S131072x1, .f32⟩
  | 63 => ⟨S131072, .f32⟩
  | 64 => ⟨S_, .f32⟩
  | 65 => ⟨S131072, .f32⟩
  | 66 => ⟨S131072, .f32⟩
  | 67 => ⟨S_, .f32⟩
  | 68 => ⟨S131072, .f32⟩
  | 69 => ⟨S131072, .f32⟩
  | 70 => ⟨S_, .f32⟩
  | 71 => ⟨S131072, .f32⟩
  | 72 => ⟨S131072, .f32⟩
  | 73 => ⟨S131072, .f32⟩
  | 74 => ⟨S131072, .f32⟩
  | 75 => ⟨S131072, .f32⟩
  | 76 => ⟨S131072, .f32⟩
  | 77 => ⟨S131072, .i32⟩
  | 78 => ⟨S_, .i32⟩
  | 79 => ⟨S_, .i32⟩
  | 80 => ⟨S_, .i32⟩
  | 81 => ⟨S131072, .i32⟩
  | 82 => ⟨S131072, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S_, .i32⟩
  | 90 => ⟨S_, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i32⟩
  | 97 => ⟨S131072, .i32⟩
  | 98 => ⟨S_, .i32⟩
  | 99 => ⟨S_, .i32⟩
  | 100 => ⟨S_, .i32⟩
  | 101 => ⟨S131072, .i32⟩
  | 102 => ⟨S131072, .i32⟩
  | 103 => ⟨S_, .i32⟩
  | 104 => ⟨S131072, .i32⟩
  | 105 => ⟨S131072, .i32⟩
  | 106 => ⟨S_, .i32⟩
  | 107 => ⟨S131072, .i32⟩
  | 108 => ⟨S131072, .i32⟩
  | 109 => ⟨S_, .i32⟩
  | 110 => ⟨S_, .i32⟩
  | 111 => ⟨S_, .i32⟩
  | 112 => ⟨S131072, .i32⟩
  | 113 => ⟨S131072, .i32⟩
  | 114 => ⟨S_, .i32⟩
  | 115 => ⟨S131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S4096x32x3, .f32⟩

abbrev hbmTy0_26 (i : Nat) : BufTy := match i % 128 with
  | 0 => ⟨S131072, .i32⟩
  | 1 => ⟨S131072, .i32⟩
  | 2 => ⟨S131072, .i32⟩
  | 3 => ⟨S131072x1, .i32⟩
  | 4 => ⟨S131072x1, .i32⟩
  | 5 => ⟨S131072x2, .i32⟩
  | 6 => ⟨S32x131072, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S131072x1, .i32⟩
  | 22 => ⟨S131072x1, .i32⟩
  | 23 => ⟨S131072x2, .i32⟩
  | 24 => ⟨S32x131072, .f32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072x1, .i32⟩
  | 41 => ⟨S131072x2, .i32⟩
  | 42 => ⟨S32x131072, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S131072x1, .i32⟩
  | 58 => ⟨S131072x1, .i32⟩
  | 59 => ⟨S131072x2, .i32⟩
  | 60 => ⟨S32x131072, .f32⟩
  | 61 => ⟨S_, .f32⟩
  | 62 => ⟨S131072, .f32⟩
  | 63 => ⟨S131072, .f32⟩
  | 64 => ⟨S1x131072, .f32⟩
  | 65 => ⟨S32x131072, .f32⟩
  | 66 => ⟨S32x131072, .f32⟩
  | 67 => ⟨S_, .f32⟩
  | 68 => ⟨S131072, .f32⟩
  | 69 => ⟨S131072, .f32⟩
  | 70 => ⟨S1x131072, .f32⟩
  | 71 => ⟨S32x131072, .f32⟩
  | 72 => ⟨S32x131072, .f32⟩
  | 73 => ⟨S1x131072, .f32⟩
  | 74 => ⟨S32x131072, .f32⟩
  | 75 => ⟨S32x131072, .f32⟩
  | 76 => ⟨S_, .f32⟩
  | 77 => ⟨S131072, .f32⟩
  | 78 => ⟨S131072, .f32⟩
  | 79 => ⟨S1x131072, .f32⟩
  | 80 => ⟨S32x131072, .f32⟩
  | 81 => ⟨S32x131072, .f32⟩
  | 82 => ⟨S32x131072, .f32⟩
  | 83 => ⟨S_, .f32⟩
  | 84 => ⟨S131072, .f32⟩
  | 85 => ⟨S131072, .f32⟩
  | 86 => ⟨S1x131072, .f32⟩
  | 87 => ⟨S32x131072, .f32⟩
  | 88 => ⟨S32x131072, .f32⟩
  | 89 => ⟨S1x131072, .f32⟩
  | 90 => ⟨S32x131072, .f32⟩
  | 91 => ⟨S32x131072, .f32⟩
  | 92 => ⟨S32x131072, .f32⟩
  | 93 => ⟨S1x131072, .f32⟩
  | 94 => ⟨S32x131072, .f32⟩
  | 95 => ⟨S32x131072, .f32⟩
  | 96 => ⟨S1x131072, .f32⟩
  | 97 => ⟨S32x131072, .f32⟩
  | 98 => ⟨S32x131072, .f32⟩
  | 99 => ⟨S32x131072, .f32⟩
  | 100 => ⟨S131072x32, .f32⟩
  | 101 => ⟨S_, .i32⟩
  | 102 => ⟨S2, .i32⟩
  | 103 => ⟨S2, .i1⟩
  | 104 => ⟨S_, .i32⟩
  | 105 => ⟨S2, .i32⟩
  | 106 => ⟨S2, .i32⟩
  | 107 => ⟨S2, .i32⟩
  | 108 => ⟨S2x1, .i32⟩
  | 109 => ⟨S131072x2, .f32⟩
  | 110 => ⟨S131072x1, .f32⟩
  | 111 => ⟨S131072, .f32⟩
  | 112 => ⟨S_, .f32⟩
  | 113 => ⟨S131072, .f32⟩
  | 114 => ⟨S131072, .f32⟩
  | 115 => ⟨S_, .f32⟩
  | 116 => ⟨S131072, .f32⟩
  | 117 => ⟨S131072, .f32⟩
  | 118 => ⟨S_, .f32⟩
  | 119 => ⟨S131072, .f32⟩
  | 120 => ⟨S131072, .f32⟩
  | 121 => ⟨S131072x1, .f32⟩
  | 122 => ⟨S131072, .f32⟩
  | 123 => ⟨S_, .f32⟩
  | 124 => ⟨S131072, .f32⟩
  | 125 => ⟨S131072, .f32⟩
  | 126 => ⟨S_, .f32⟩
  | 127 => ⟨S131072, .f32⟩
  | _ => ⟨S4096x32x3, .f32⟩

abbrev hbmTy0_27 (i : Nat) : BufTy := match i % 128 with
  | 0 => ⟨S131072, .f32⟩
  | 1 => ⟨S_, .f32⟩
  | 2 => ⟨S131072, .f32⟩
  | 3 => ⟨S131072, .f32⟩
  | 4 => ⟨S131072, .f32⟩
  | 5 => ⟨S131072, .f32⟩
  | 6 => ⟨S131072, .f32⟩
  | 7 => ⟨S131072, .f32⟩
  | 8 => ⟨S131072, .i32⟩
  | 9 => ⟨S_, .i32⟩
  | 10 => ⟨S_, .i32⟩
  | 11 => ⟨S_, .i32⟩
  | 12 => ⟨S131072, .i32⟩
  | 13 => ⟨S131072, .i32⟩
  | 14 => ⟨S_, .i32⟩
  | 15 => ⟨S131072, .i32⟩
  | 16 => ⟨S131072, .i32⟩
  | 17 => ⟨S_, .i32⟩
  | 18 => ⟨S131072, .i32⟩
  | 19 => ⟨S131072, .i32⟩
  | 20 => ⟨S_, .i32⟩
  | 21 => ⟨S_, .i32⟩
  | 22 => ⟨S_, .i32⟩
  | 23 => ⟨S131072, .i32⟩
  | 24 => ⟨S131072, .i32⟩
  | 25 => ⟨S_, .i32⟩
  | 26 => ⟨S131072, .i32⟩
  | 27 => ⟨S131072, .i32⟩
  | 28 => ⟨S131072, .i32⟩
  | 29 => ⟨S_, .i32⟩
  | 30 => ⟨S_, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i32⟩
  | 37 => ⟨S_, .i32⟩
  | 38 => ⟨S131072, .i32⟩
  | 39 => ⟨S131072, .i32⟩
  | 40 => ⟨S_, .i32⟩
  | 41 => ⟨S_, .i32⟩
  | 42 => ⟨S_, .i32⟩
  | 43 => ⟨S131072, .i32⟩
  | 44 => ⟨S131072, .i32⟩
  | 45 => ⟨S_, .i32⟩
  | 46 => ⟨S131072, .i32⟩
  | 47 => ⟨S131072, .i32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S131072x1, .i32⟩
  | 63 => ⟨S131072x1, .i32⟩
  | 64 => ⟨S131072x2, .i32⟩
  | 65 => ⟨S32x131072, .f32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S131072x1, .i32⟩
  | 81 => ⟨S131072x1, .i32⟩
  | 82 => ⟨S131072x2, .i32⟩
  | 83 => ⟨S32x131072, .f32⟩
  | 84 => ⟨S_, .i32⟩
  | 85 => ⟨S131072, .i32⟩
  | 86 => ⟨S131072, .i1⟩
  | 87 => ⟨S_, .i32⟩
  | 88 => ⟨S131072, .i32⟩
  | 89 => ⟨S131072, .i32⟩
  | 90 => ⟨S131072, .i32⟩
  | 91 => ⟨S_, .i32⟩
  | 92 => ⟨S131072, .i32⟩
  | 93 => ⟨S131072, .i1⟩
  | 94 => ⟨S_, .i32⟩
  | 95 => ⟨S131072, .i32⟩
  | 96 => ⟨S131072, .i32⟩
  | 97 => ⟨S131072, .i32⟩
  | 98 => ⟨S131072x1, .i32⟩
  | 99 => ⟨S131072x1, .i32⟩
  | 100 => ⟨S131072x2, .i32⟩
  | 101 => ⟨S32x131072, .f32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S_, .i32⟩
  | 110 => ⟨S131072, .i32⟩
  | 111 => ⟨S131072, .i1⟩
  | 112 => ⟨S_, .i32⟩
  | 113 => ⟨S131072, .i32⟩
  | 114 => ⟨S131072, .i32⟩
  | 115 => ⟨S131072, .i32⟩
  | 116 => ⟨S131072x1, .i32⟩
  | 117 => ⟨S131072x1, .i32⟩
  | 118 => ⟨S131072x2, .i32⟩
  | 119 => ⟨S32x131072, .f32⟩
  | 120 => ⟨S_, .f32⟩
  | 121 => ⟨S131072, .f32⟩
  | 122 => ⟨S131072, .f32⟩
  | 123 => ⟨S1x131072, .f32⟩
  | 124 => ⟨S32x131072, .f32⟩
  | 125 => ⟨S32x131072, .f32⟩
  | 126 => ⟨S_, .f32⟩
  | 127 => ⟨S131072, .f32⟩
  | _ => ⟨S4096x32x3, .f32⟩

abbrev hbmTy0_28 (i : Nat) : BufTy := match i % 128 with
  | 0 => ⟨S131072, .f32⟩
  | 1 => ⟨S1x131072, .f32⟩
  | 2 => ⟨S32x131072, .f32⟩
  | 3 => ⟨S32x131072, .f32⟩
  | 4 => ⟨S1x131072, .f32⟩
  | 5 => ⟨S32x131072, .f32⟩
  | 6 => ⟨S32x131072, .f32⟩
  | 7 => ⟨S_, .f32⟩
  | 8 => ⟨S131072, .f32⟩
  | 9 => ⟨S131072, .f32⟩
  | 10 => ⟨S1x131072, .f32⟩
  | 11 => ⟨S32x131072, .f32⟩
  | 12 => ⟨S32x131072, .f32⟩
  | 13 => ⟨S32x131072, .f32⟩
  | 14 => ⟨S_, .f32⟩
  | 15 => ⟨S131072, .f32⟩
  | 16 => ⟨S131072, .f32⟩
  | 17 => ⟨S1x131072, .f32⟩
  | 18 => ⟨S32x131072, .f32⟩
  | 19 => ⟨S32x131072, .f32⟩
  | 20 => ⟨S1x131072, .f32⟩
  | 21 => ⟨S32x131072, .f32⟩
  | 22 => ⟨S32x131072, .f32⟩
  | 23 => ⟨S32x131072, .f32⟩
  | 24 => ⟨S1x131072, .f32⟩
  | 25 => ⟨S32x131072, .f32⟩
  | 26 => ⟨S32x131072, .f32⟩
  | 27 => ⟨S1x131072, .f32⟩
  | 28 => ⟨S32x131072, .f32⟩
  | 29 => ⟨S32x131072, .f32⟩
  | 30 => ⟨S32x131072, .f32⟩
  | 31 => ⟨S131072x32, .f32⟩
  | 32 => ⟨S_, .i32⟩
  | 33 => ⟨S2, .i32⟩
  | 34 => ⟨S2, .i1⟩
  | 35 => ⟨S_, .i32⟩
  | 36 => ⟨S2, .i32⟩
  | 37 => ⟨S2, .i32⟩
  | 38 => ⟨S2, .i32⟩
  | 39 => ⟨S2x1, .i32⟩
  | 40 => ⟨S131072x2, .f32⟩
  | 41 => ⟨S131072x1, .f32⟩
  | 42 => ⟨S131072, .f32⟩
  | 43 => ⟨S_, .f32⟩
  | 44 => ⟨S131072, .f32⟩
  | 45 => ⟨S131072, .f32⟩
  | 46 => ⟨S_, .f32⟩
  | 47 => ⟨S131072, .f32⟩
  | 48 => ⟨S131072, .f32⟩
  | 49 => ⟨S_, .f32⟩
  | 50 => ⟨S131072, .f32⟩
  | 51 => ⟨S131072, .f32⟩
  | 52 => ⟨S131072x1, .f32⟩
  | 53 => ⟨S131072, .f32⟩
  | 54 => ⟨S_, .f32⟩
  | 55 => ⟨S131072, .f32⟩
  | 56 => ⟨S131072, .f32⟩
  | 57 => ⟨S_, .f32⟩
  | 58 => ⟨S131072, .f32⟩
  | 59 => ⟨S131072, .f32⟩
  | 60 => ⟨S_, .f32⟩
  | 61 => ⟨S131072, .f32⟩
  | 62 => ⟨S131072, .f32⟩
  | 63 => ⟨S131072, .f32⟩
  | 64 => ⟨S131072, .f32⟩
  | 65 => ⟨S131072, .f32⟩
  | 66 => ⟨S131072, .f32⟩
  | 67 => ⟨S131072, .i32⟩
  | 68 => ⟨S_, .i32⟩
  | 69 => ⟨S_, .i32⟩
  | 70 => ⟨S_, .i32⟩
  | 71 => ⟨S131072, .i32⟩
  | 72 => ⟨S131072, .i32⟩
  | 73 => ⟨S_, .i32⟩
  | 74 => ⟨S131072, .i32⟩
  | 75 => ⟨S131072, .i32⟩
  | 76 => ⟨S_, .i32⟩
  | 77 => ⟨S131072, .i32⟩
  | 78 => ⟨S131072, .i32⟩
  | 79 => ⟨S_, .i32⟩
  | 80 => ⟨S_, .i32⟩
  | 81 => ⟨S_, .i32⟩
  | 82 => ⟨S131072, .i32⟩
  | 83 => ⟨S131072, .i32⟩
  | 84 => ⟨S_, .i32⟩
  | 85 => ⟨S131072, .i32⟩
  | 86 => ⟨S131072, .i32⟩
  | 87 => ⟨S131072, .i32⟩
  | 88 => ⟨S_, .i32⟩
  | 89 => ⟨S_, .i32⟩
  | 90 => ⟨S_, .i32⟩
  | 91 => ⟨S131072, .i32⟩
  | 92 => ⟨S131072, .i32⟩
  | 93 => ⟨S_, .i32⟩
  | 94 => ⟨S131072, .i32⟩
  | 95 => ⟨S131072, .i32⟩
  | 96 => ⟨S_, .i32⟩
  | 97 => ⟨S131072, .i32⟩
  | 98 => ⟨S131072, .i32⟩
  | 99 => ⟨S_, .i32⟩
  | 100 => ⟨S_, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x1, .i32⟩
  | 123 => ⟨S131072x2, .i32⟩
  | 124 => ⟨S32x131072, .f32⟩
  | 125 => ⟨S_, .i32⟩
  | 126 => ⟨S131072, .i32⟩
  | 127 => ⟨S131072, .i1⟩
  | _ => ⟨S4096x32x3, .f32⟩

abbrev hbmTy0_29 (i : Nat) : BufTy := match i % 128 with
  | 0 => ⟨S_, .i32⟩
  | 1 => ⟨S131072, .i32⟩
  | 2 => ⟨S131072, .i32⟩
  | 3 => ⟨S131072, .i32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x1, .i32⟩
  | 13 => ⟨S131072x2, .i32⟩
  | 14 => ⟨S32x131072, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x1, .i32⟩
  | 31 => ⟨S131072x2, .i32⟩
  | 32 => ⟨S32x131072, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x1, .i32⟩
  | 49 => ⟨S131072x2, .i32⟩
  | 50 => ⟨S32x131072, .f32⟩
  | 51 => ⟨S_, .f32⟩
  | 52 => ⟨S131072, .f32⟩
  | 53 => ⟨S131072, .f32⟩
  | 54 => ⟨S1x131072, .f32⟩
  | 55 => ⟨S32x131072, .f32⟩
  | 56 => ⟨S32x131072, .f32⟩
  | 57 => ⟨S_, .f32⟩
  | 58 => ⟨S131072, .f32⟩
  | 59 => ⟨S131072, .f32⟩
  | 60 => ⟨S1x131072, .f32⟩
  | 61 => ⟨S32x131072, .f32⟩
  | 62 => ⟨S32x131072, .f32⟩
  | 63 => ⟨S1x131072, .f32⟩
  | 64 => ⟨S32x131072, .f32⟩
  | 65 => ⟨S32x131072, .f32⟩
  | 66 => ⟨S_, .f32⟩
  | 67 => ⟨S131072, .f32⟩
  | 68 => ⟨S131072, .f32⟩
  | 69 => ⟨S1x131072, .f32⟩
  | 70 => ⟨S32x131072, .f32⟩
  | 71 => ⟨S32x131072, .f32⟩
  | 72 => ⟨S32x131072, .f32⟩
  | 73 => ⟨S_, .f32⟩
  | 74 => ⟨S131072, .f32⟩
  | 75 => ⟨S131072, .f32⟩
  | 76 => ⟨S1x131072, .f32⟩
  | 77 => ⟨S32x131072, .f32⟩
  | 78 => ⟨S32x131072, .f32⟩
  | 79 => ⟨S1x131072, .f32⟩
  | 80 => ⟨S32x131072, .f32⟩
  | 81 => ⟨S32x131072, .f32⟩
  | 82 => ⟨S32x131072, .f32⟩
  | 83 => ⟨S1x131072, .f32⟩
  | 84 => ⟨S32x131072, .f32⟩
  | 85 => ⟨S32x131072, .f32⟩
  | 86 => ⟨S1x131072, .f32⟩
  | 87 => ⟨S32x131072, .f32⟩
  | 88 => ⟨S32x131072, .f32⟩
  | 89 => ⟨S32x131072, .f32⟩
  | 90 => ⟨S131072x32, .f32⟩
  | 91 => ⟨S_, .i32⟩
  | 92 => ⟨S2, .i32⟩
  | 93 => ⟨S2, .i1⟩
  | 94 => ⟨S_, .i32⟩
  | 95 => ⟨S2, .i32⟩
  | 96 => ⟨S2, .i32⟩
  | 97 => ⟨S2, .i32⟩
  | 98 => ⟨S2x1, .i32⟩
  | 99 => ⟨S131072x2, .f32⟩
  | 100 => ⟨S131072x1, .f32⟩
  | 101 => ⟨S131072, .f32⟩
  | 102 => ⟨S_, .f32⟩
  | 103 => ⟨S131072, .f32⟩
  | 104 => ⟨S131072, .f32⟩
  | 105 => ⟨S_, .f32⟩
  | 106 => ⟨S131072, .f32⟩
  | 107 => ⟨S131072, .f32⟩
  | 108 => ⟨S_, .f32⟩
  | 109 => ⟨S131072, .f32⟩
  | 110 => ⟨S131072, .f32⟩
  | 111 => ⟨S131072x1, .f32⟩
  | 112 => ⟨S131072, .f32⟩
  | 113 => ⟨S_, .f32⟩
  | 114 => ⟨S131072, .f32⟩
  | 115 => ⟨S131072, .f32⟩
  | 116 => ⟨S_, .f32⟩
  | 117 => ⟨S131072, .f32⟩
  | 118 => ⟨S131072, .f32⟩
  | 119 => ⟨S_, .f32⟩
  | 120 => ⟨S131072, .f32⟩
  | 121 => ⟨S131072, .f32⟩
  | 122 => ⟨S131072, .f32⟩
  | 123 => ⟨S131072, .f32⟩
  | 124 => ⟨S131072, .f32⟩
  | 125 => ⟨S131072, .f32⟩
  | 126 => ⟨S131072, .i32⟩
  | 127 => ⟨S_, .i32⟩
  | _ => ⟨S4096x32x3, .f32⟩

abbrev hbmTy0_30 (i : Nat) : BufTy := match i % 128 with
  | 0 => ⟨S_, .i32⟩
  | 1 => ⟨S_, .i32⟩
  | 2 => ⟨S131072, .i32⟩
  | 3 => ⟨S131072, .i32⟩
  | 4 => ⟨S_, .i32⟩
  | 5 => ⟨S131072, .i32⟩
  | 6 => ⟨S131072, .i32⟩
  | 7 => ⟨S_, .i32⟩
  | 8 => ⟨S131072, .i32⟩
  | 9 => ⟨S131072, .i32⟩
  | 10 => ⟨S_, .i32⟩
  | 11 => ⟨S_, .i32⟩
  | 12 => ⟨S_, .i32⟩
  | 13 => ⟨S131072, .i32⟩
  | 14 => ⟨S131072, .i32⟩
  | 15 => ⟨S_, .i32⟩
  | 16 => ⟨S131072, .i32⟩
  | 17 => ⟨S131072, .i32⟩
  | 18 => ⟨S131072, .i32⟩
  | 19 => ⟨S_, .i32⟩
  | 20 => ⟨S_, .i32⟩
  | 21 => ⟨S_, .i32⟩
  | 22 => ⟨S131072, .i32⟩
  | 23 => ⟨S131072, .i32⟩
  | 24 => ⟨S_, .i32⟩
  | 25 => ⟨S131072, .i32⟩
  | 26 => ⟨S131072, .i32⟩
  | 27 => ⟨S_, .i32⟩
  | 28 => ⟨S131072, .i32⟩
  | 29 => ⟨S131072, .i32⟩
  | 30 => ⟨S_, .i32⟩
  | 31 => ⟨S_, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S131072x1, .i32⟩
  | 53 => ⟨S131072x1, .i32⟩
  | 54 => ⟨S131072x2, .i32⟩
  | 55 => ⟨S32x131072, .f32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072x1, .i32⟩
  | 72 => ⟨S131072x2, .i32⟩
  | 73 => ⟨S32x131072, .f32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S131072x1, .i32⟩
  | 90 => ⟨S131072x2, .i32⟩
  | 91 => ⟨S32x131072, .f32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S131072x1, .i32⟩
  | 107 => ⟨S131072x1, .i32⟩
  | 108 => ⟨S131072x2, .i32⟩
  | 109 => ⟨S32x131072, .f32⟩
  | 110 => ⟨S_, .f32⟩
  | 111 => ⟨S131072, .f32⟩
  | 112 => ⟨S131072, .f32⟩
  | 113 => ⟨S1x131072, .f32⟩
  | 114 => ⟨S32x131072, .f32⟩
  | 115 => ⟨S32x131072, .f32⟩
  | 116 => ⟨S_, .f32⟩
  | 117 => ⟨S131072, .f32⟩
  | 118 => ⟨S131072, .f32⟩
  | 119 => ⟨S1x131072, .f32⟩
  | 120 => ⟨S32x131072, .f32⟩
  | 121 => ⟨S32x131072, .f32⟩
  | 122 => ⟨S1x131072, .f32⟩
  | 123 => ⟨S32x131072, .f32⟩
  | 124 => ⟨S32x131072, .f32⟩
  | 125 => ⟨S_, .f32⟩
  | 126 => ⟨S131072, .f32⟩
  | 127 => ⟨S131072, .f32⟩
  | _ => ⟨S4096x32x3, .f32⟩

abbrev hbmTy0_31 (i : Nat) : BufTy := match i % 128 with
  | 0 => ⟨S1x131072, .f32⟩
  | 1 => ⟨S32x131072, .f32⟩
  | 2 => ⟨S32x131072, .f32⟩
  | 3 => ⟨S32x131072, .f32⟩
  | 4 => ⟨S_, .f32⟩
  | 5 => ⟨S131072, .f32⟩
  | 6 => ⟨S131072, .f32⟩
  | 7 => ⟨S1x131072, .f32⟩
  | 8 => ⟨S32x131072, .f32⟩
  | 9 => ⟨S32x131072, .f32⟩
  | 10 => ⟨S1x131072, .f32⟩
  | 11 => ⟨S32x131072, .f32⟩
  | 12 => ⟨S32x131072, .f32⟩
  | 13 => ⟨S32x131072, .f32⟩
  | 14 => ⟨S1x131072, .f32⟩
  | 15 => ⟨S32x131072, .f32⟩
  | 16 => ⟨S32x131072, .f32⟩
  | 17 => ⟨S1x131072, .f32⟩
  | 18 => ⟨S32x131072, .f32⟩
  | 19 => ⟨S32x131072, .f32⟩
  | 20 => ⟨S32x131072, .f32⟩
  | 21 => ⟨S131072x32, .f32⟩
  | 22 => ⟨S_, .i32⟩
  | 23 => ⟨S2, .i32⟩
  | 24 => ⟨S2, .i1⟩
  | 25 => ⟨S_, .i32⟩
  | 26 => ⟨S2, .i32⟩
  | 27 => ⟨S2, .i32⟩
  | 28 => ⟨S2, .i32⟩
  | 29 => ⟨S2x1, .i32⟩
  | 30 => ⟨S131072x2, .f32⟩
  | 31 => ⟨S131072x1, .f32⟩
  | 32 => ⟨S131072, .f32⟩
  | 33 => ⟨S_, .f32⟩
  | 34 => ⟨S131072, .f32⟩
  | 35 => ⟨S131072, .f32⟩
  | 36 => ⟨S_, .f32⟩
  | 37 => ⟨S131072, .f32⟩
  | 38 => ⟨S131072, .f32⟩
  | 39 => ⟨S_, .f32⟩
  | 40 => ⟨S131072, .f32⟩
  | 41 => ⟨S131072, .f32⟩
  | 42 => ⟨S131072x1, .f32⟩
  | 43 => ⟨S131072, .f32⟩
  | 44 => ⟨S_, .f32⟩
  | 45 => ⟨S131072, .f32⟩
  | 46 => ⟨S131072, .f32⟩
  | 47 => ⟨S_, .f32⟩
  | 48 => ⟨S131072, .f32⟩
  | 49 => ⟨S131072, .f32⟩
  | 50 => ⟨S_, .f32⟩
  | 51 => ⟨S131072, .f32⟩
  | 52 => ⟨S131072, .f32⟩
  | 53 => ⟨S131072, .f32⟩
  | 54 => ⟨S131072, .f32⟩
  | 55 => ⟨S131072, .f32⟩
  | 56 => ⟨S131072, .f32⟩
  | 57 => ⟨S131072, .i32⟩
  | 58 => ⟨S_, .i32⟩
  | 59 => ⟨S_, .i32⟩
  | 60 => ⟨S_, .i32⟩
  | 61 => ⟨S131072, .i32⟩
  | 62 => ⟨S131072, .i32⟩
  | 63 => ⟨S_, .i32⟩
  | 64 => ⟨S131072, .i32⟩
  | 65 => ⟨S131072, .i32⟩
  | 66 => ⟨S_, .i32⟩
  | 67 => ⟨S131072, .i32⟩
  | 68 => ⟨S131072, .i32⟩
  | 69 => ⟨S_, .i32⟩
  | 70 => ⟨S_, .i32⟩
  | 71 => ⟨S_, .i32⟩
  | 72 => ⟨S131072, .i32⟩
  | 73 => ⟨S131072, .i32⟩
  | 74 => ⟨S_, .i32⟩
  | 75 => ⟨S131072, .i32⟩
  | 76 => ⟨S131072, .i32⟩
  | 77 => ⟨S131072, .i32⟩
  | 78 => ⟨S_, .i32⟩
  | 79 => ⟨S_, .i32⟩
  | 80 => ⟨S_, .i32⟩
  | 81 => ⟨S131072, .i32⟩
  | 82 => ⟨S131072, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S_, .i32⟩
  | 90 => ⟨S_, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072x1, .i32⟩
  | 113 => ⟨S131072x2, .i32⟩
  | 114 => ⟨S32x131072, .f32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S4096x32x3, .f32⟩

abbrev hbmTy0_32 (i : Nat) : BufTy := match i % 128 with
  | 0 => ⟨S131072, .i32⟩
  | 1 => ⟨S131072x1, .i32⟩
  | 2 => ⟨S131072x1, .i32⟩
  | 3 => ⟨S131072x2, .i32⟩
  | 4 => ⟨S32x131072, .f32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S131072x1, .i32⟩
  | 20 => ⟨S131072x1, .i32⟩
  | 21 => ⟨S131072x2, .i32⟩
  | 22 => ⟨S32x131072, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S131072x1, .i32⟩
  | 39 => ⟨S131072x2, .i32⟩
  | 40 => ⟨S32x131072, .f32⟩
  | 41 => ⟨S_, .f32⟩
  | 42 => ⟨S131072, .f32⟩
  | 43 => ⟨S131072, .f32⟩
  | 44 => ⟨S1x131072, .f32⟩
  | 45 => ⟨S32x131072, .f32⟩
  | 46 => ⟨S32x131072, .f32⟩
  | 47 => ⟨S_, .f32⟩
  | 48 => ⟨S131072, .f32⟩
  | 49 => ⟨S131072, .f32⟩
  | 50 => ⟨S1x131072, .f32⟩
  | 51 => ⟨S32x131072, .f32⟩
  | 52 => ⟨S32x131072, .f32⟩
  | 53 => ⟨S1x131072, .f32⟩
  | 54 => ⟨S32x131072, .f32⟩
  | 55 => ⟨S32x131072, .f32⟩
  | 56 => ⟨S_, .f32⟩
  | 57 => ⟨S131072, .f32⟩
  | 58 => ⟨S131072, .f32⟩
  | 59 => ⟨S1x131072, .f32⟩
  | 60 => ⟨S32x131072, .f32⟩
  | 61 => ⟨S32x131072, .f32⟩
  | 62 => ⟨S32x131072, .f32⟩
  | 63 => ⟨S_, .f32⟩
  | 64 => ⟨S131072, .f32⟩
  | 65 => ⟨S131072, .f32⟩
  | 66 => ⟨S1x131072, .f32⟩
  | 67 => ⟨S32x131072, .f32⟩
  | 68 => ⟨S32x131072, .f32⟩
  | 69 => ⟨S1x131072, .f32⟩
  | 70 => ⟨S32x131072, .f32⟩
  | 71 => ⟨S32x131072, .f32⟩
  | 72 => ⟨S32x131072, .f32⟩
  | 73 => ⟨S1x131072, .f32⟩
  | 74 => ⟨S32x131072, .f32⟩
  | 75 => ⟨S32x131072, .f32⟩
  | 76 => ⟨S1x131072, .f32⟩
  | 77 => ⟨S32x131072, .f32⟩
  | 78 => ⟨S32x131072, .f32⟩
  | 79 => ⟨S32x131072, .f32⟩
  | 80 => ⟨S131072x32, .f32⟩
  | 81 => ⟨S_, .i32⟩
  | 82 => ⟨S2, .i32⟩
  | 83 => ⟨S2, .i1⟩
  | 84 => ⟨S_, .i32⟩
  | 85 => ⟨S2, .i32⟩
  | 86 => ⟨S2, .i32⟩
  | 87 => ⟨S2, .i32⟩
  | 88 => ⟨S2x1, .i32⟩
  | 89 => ⟨S131072x2, .f32⟩
  | 90 => ⟨S131072x1, .f32⟩
  | 91 => ⟨S131072, .f32⟩
  | 92 => ⟨S_, .f32⟩
  | 93 => ⟨S131072, .f32⟩
  | 94 => ⟨S131072, .f32⟩
  | 95 => ⟨S_, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072x1, .f32⟩
  | 102 => ⟨S131072, .f32⟩
  | 103 => ⟨S_, .f32⟩
  | 104 => ⟨S131072, .f32⟩
  | 105 => ⟨S131072, .f32⟩
  | 106 => ⟨S_, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072, .f32⟩
  | 113 => ⟨S131072, .f32⟩
  | 114 => ⟨S131072, .f32⟩
  | 115 => ⟨S131072, .f32⟩
  | 116 => ⟨S131072, .i32⟩
  | 117 => ⟨S_, .i32⟩
  | 118 => ⟨S_, .i32⟩
  | 119 => ⟨S_, .i32⟩
  | 120 => ⟨S131072, .i32⟩
  | 121 => ⟨S131072, .i32⟩
  | 122 => ⟨S_, .i32⟩
  | 123 => ⟨S131072, .i32⟩
  | 124 => ⟨S131072, .i32⟩
  | 125 => ⟨S_, .i32⟩
  | 126 => ⟨S131072, .i32⟩
  | 127 => ⟨S131072, .i32⟩
  | _ => ⟨S4096x32x3, .f32⟩

abbrev hbmTy0_33 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S131072, .i32⟩
  | 9 => ⟨S_, .i32⟩
  | 10 => ⟨S_, .i32⟩
  | 11 => ⟨S_, .i32⟩
  | 12 => ⟨S131072, .i32⟩
  | 13 => ⟨S131072, .i32⟩
  | 14 => ⟨S_, .i32⟩
  | 15 => ⟨S131072, .i32⟩
  | 16 => ⟨S131072, .i32⟩
  | 17 => ⟨S_, .i32⟩
  | 18 => ⟨S131072, .i32⟩
  | 19 => ⟨S131072, .i32⟩
  | 20 => ⟨S_, .i32⟩
  | 21 => ⟨S_, .i32⟩
  | 22 => ⟨S_, .i32⟩
  | 23 => ⟨S131072, .i32⟩
  | 24 => ⟨S131072, .i32⟩
  | 25 => ⟨S_, .i32⟩
  | 26 => ⟨S131072, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x1, .i32⟩
  | 44 => ⟨S131072x2, .i32⟩
  | 45 => ⟨S32x131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x1, .i32⟩
  | 62 => ⟨S131072x2, .i32⟩
  | 63 => ⟨S32x131072, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S32x131072, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x1, .i32⟩
  | 98 => ⟨S131072x2, .i32⟩
  | 99 => ⟨S32x131072, .f32⟩
  | 100 => ⟨S_, .f32⟩
  | 101 => ⟨S131072, .f32⟩
  | 102 => ⟨S131072, .f32⟩
  | 103 => ⟨S1x131072, .f32⟩
  | 104 => ⟨S32x131072, .f32⟩
  | 105 => ⟨S32x131072, .f32⟩
  | 106 => ⟨S_, .f32⟩
  | 107 => ⟨S131072, .f32⟩
  | 108 => ⟨S131072, .f32⟩
  | 109 => ⟨S1x131072, .f32⟩
  | 110 => ⟨S32x131072, .f32⟩
  | 111 => ⟨S32x131072, .f32⟩
  | 112 => ⟨S1x131072, .f32⟩
  | 113 => ⟨S32x131072, .f32⟩
  | 114 => ⟨S32x131072, .f32⟩
  | 115 => ⟨S_, .f32⟩
  | 116 => ⟨S131072, .f32⟩
  | 117 => ⟨S131072, .f32⟩
  | 118 => ⟨S1x131072, .f32⟩
  | 119 => ⟨S32x131072, .f32⟩
  | 120 => ⟨S32x131072, .f32⟩
  | 121 => ⟨S32x131072, .f32⟩
  | 122 => ⟨S_, .f32⟩
  | 123 => ⟨S131072, .f32⟩
  | 124 => ⟨S131072, .f32⟩
  | 125 => ⟨S1x131072, .f32⟩
  | 126 => ⟨S32x131072, .f32⟩
  | 127 => ⟨S32x131072, .f32⟩
  | _ => ⟨S4096x32x3, .f32⟩

abbrev hbmTy0_34 (i : Nat) : BufTy := match i % 128 with
  | 0 => ⟨S1x131072, .f32⟩
  | 1 => ⟨S32x131072, .f32⟩
  | 2 => ⟨S32x131072, .f32⟩
  | 3 => ⟨S32x131072, .f32⟩
  | 4 => ⟨S1x131072, .f32⟩
  | 5 => ⟨S32x131072, .f32⟩
  | 6 => ⟨S32x131072, .f32⟩
  | 7 => ⟨S1x131072, .f32⟩
  | 8 => ⟨S32x131072, .f32⟩
  | 9 => ⟨S32x131072, .f32⟩
  | 10 => ⟨S32x131072, .f32⟩
  | 11 => ⟨S131072x32, .f32⟩
  | 12 => ⟨S_, .i32⟩
  | 13 => ⟨S2, .i32⟩
  | 14 => ⟨S2, .i1⟩
  | 15 => ⟨S_, .i32⟩
  | 16 => ⟨S2, .i32⟩
  | 17 => ⟨S2, .i32⟩
  | 18 => ⟨S2, .i32⟩
  | 19 => ⟨S2x1, .i32⟩
  | 20 => ⟨S131072x2, .f32⟩
  | 21 => ⟨S131072x1, .f32⟩
  | 22 => ⟨S131072, .f32⟩
  | 23 => ⟨S_, .f32⟩
  | 24 => ⟨S131072, .f32⟩
  | 25 => ⟨S131072, .f32⟩
  | 26 => ⟨S_, .f32⟩
  | 27 => ⟨S131072, .f32⟩
  | 28 => ⟨S131072, .f32⟩
  | 29 => ⟨S_, .f32⟩
  | 30 => ⟨S131072, .f32⟩
  | 31 => ⟨S131072, .f32⟩
  | 32 => ⟨S131072x1, .f32⟩
  | 33 => ⟨S131072, .f32⟩
  | 34 => ⟨S_, .f32⟩
  | 35 => ⟨S131072, .f32⟩
  | 36 => ⟨S131072, .f32⟩
  | 37 => ⟨S_, .f32⟩
  | 38 => ⟨S131072, .f32⟩
  | 39 => ⟨S131072, .f32⟩
  | 40 => ⟨S_, .f32⟩
  | 41 => ⟨S131072, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072, .i32⟩
  | 48 => ⟨S_, .i32⟩
  | 49 => ⟨S_, .i32⟩
  | 50 => ⟨S_, .i32⟩
  | 51 => ⟨S131072, .i32⟩
  | 52 => ⟨S131072, .i32⟩
  | 53 => ⟨S_, .i32⟩
  | 54 => ⟨S131072, .i32⟩
  | 55 => ⟨S131072, .i32⟩
  | 56 => ⟨S_, .i32⟩
  | 57 => ⟨S131072, .i32⟩
  | 58 => ⟨S131072, .i32⟩
  | 59 => ⟨S_, .i32⟩
  | 60 => ⟨S_, .i32⟩
  | 61 => ⟨S_, .i32⟩
  | 62 => ⟨S131072, .i32⟩
  | 63 => ⟨S131072, .i32⟩
  | 64 => ⟨S_, .i32⟩
  | 65 => ⟨S131072, .i32⟩
  | 66 => ⟨S131072, .i32⟩
  | 67 => ⟨S131072, .i32⟩
  | 68 => ⟨S_, .i32⟩
  | 69 => ⟨S_, .i32⟩
  | 70 => ⟨S_, .i32⟩
  | 71 => ⟨S131072, .i32⟩
  | 72 => ⟨S131072, .i32⟩
  | 73 => ⟨S_, .i32⟩
  | 74 => ⟨S131072, .i32⟩
  | 75 => ⟨S131072, .i32⟩
  | 76 => ⟨S_, .i32⟩
  | 77 => ⟨S131072, .i32⟩
  | 78 => ⟨S131072, .i32⟩
  | 79 => ⟨S_, .i32⟩
  | 80 => ⟨S_, .i32⟩
  | 81 => ⟨S_, .i32⟩
  | 82 => ⟨S131072, .i32⟩
  | 83 => ⟨S131072, .i32⟩
  | 84 => ⟨S_, .i32⟩
  | 85 => ⟨S131072, .i32⟩
  | 86 => ⟨S131072, .i32⟩
  | 87 => ⟨S_, .i32⟩
  | 88 => ⟨S131072, .i32⟩
  | 89 => ⟨S131072, .i1⟩
  | 90 => ⟨S_, .i32⟩
  | 91 => ⟨S131072, .i32⟩
  | 92 => ⟨S131072, .i32⟩
  | 93 => ⟨S131072, .i32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072x1, .i32⟩
  | 103 => ⟨S131072x2, .i32⟩
  | 104 => ⟨S32x131072, .f32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x1, .i32⟩
  | 121 => ⟨S131072x2, .i32⟩
  | 122 => ⟨S32x131072, .f32⟩
  | 123 => ⟨S_, .i32⟩
  | 124 => ⟨S131072, .i32⟩
  | 125 => ⟨S131072, .i1⟩
  | 126 => ⟨S_, .i32⟩
  | 127 => ⟨S131072, .i32⟩
  | _ => ⟨S4096x32x3, .f32⟩

abbrev hbmTy0_35 (i : Nat) : BufTy := match i % 128 with
  | 0 => ⟨S131072, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i32⟩
  | 8 => ⟨S131072, .i32⟩
  | 9 => ⟨S131072x1, .i32⟩
  | 10 => ⟨S131072x1, .i32⟩
  | 11 => ⟨S131072x2, .i32⟩
  | 12 => ⟨S32x131072, .f32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x1, .i32⟩
  | 29 => ⟨S131072x2, .i32⟩
  | 30 => ⟨S32x131072, .f32⟩
  | 31 => ⟨S_, .f32⟩
  | 32 => ⟨S131072, .f32⟩
  | 33 => ⟨S131072, .f32⟩
  | 34 => ⟨S1x131072, .f32⟩
  | 35 => ⟨S32x131072, .f32⟩
  | 36 => ⟨S32x131072, .f32⟩
  | 37 => ⟨S_, .f32⟩
  | 38 => ⟨S131072, .f32⟩
  | 39 => ⟨S131072, .f32⟩
  | 40 => ⟨S1x131072, .f32⟩
  | 41 => ⟨S32x131072, .f32⟩
  | 42 => ⟨S32x131072, .f32⟩
  | 43 => ⟨S1x131072, .f32⟩
  | 44 => ⟨S32x131072, .f32⟩
  | 45 => ⟨S32x131072, .f32⟩
  | 46 => ⟨S_, .f32⟩
  | 47 => ⟨S131072, .f32⟩
  | 48 => ⟨S131072, .f32⟩
  | 49 => ⟨S1x131072, .f32⟩
  | 50 => ⟨S32x131072, .f32⟩
  | 51 => ⟨S32x131072, .f32⟩
  | 52 => ⟨S32x131072, .f32⟩
  | 53 => ⟨S_, .f32⟩
  | 54 => ⟨S131072, .f32⟩
  | 55 => ⟨S131072, .f32⟩
  | 56 => ⟨S1x131072, .f32⟩
  | 57 => ⟨S32x131072, .f32⟩
  | 58 => ⟨S32x131072, .f32⟩
  | 59 => ⟨S1x131072, .f32⟩
  | 60 => ⟨S32x131072, .f32⟩
  | 61 => ⟨S32x131072, .f32⟩
  | 62 => ⟨S32x131072, .f32⟩
  | 63 => ⟨S1x131072, .f32⟩
  | 64 => ⟨S32x131072, .f32⟩
  | 65 => ⟨S32x131072, .f32⟩
  | 66 => ⟨S1x131072, .f32⟩
  | 67 => ⟨S32x131072, .f32⟩
  | 68 => ⟨S32x131072, .f32⟩
  | 69 => ⟨S32x131072, .f32⟩
  | 70 => ⟨S131072x32, .f32⟩
  | 71 => ⟨S131072x16, .f32⟩
  | _ => ⟨S4096x32x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | _ => ⟨S4096x32x3, .f32⟩

abbrev bufTy : (tb : Table) → Fin (tcTables nBuf tb) → BufTy
  | .hbm, ⟨i, _⟩ => hbmTy i
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | .local _ .vmem, ⟨19, _⟩ => ⟨S1024x32, .f32⟩
  | .local _ .vmem, ⟨20, _⟩ => ⟨S1024x32, .f32⟩
  | .local _ .vmem, ⟨21, _⟩ => ⟨S1024x32, .f32⟩
  | .local _ .vmem, ⟨22, _⟩ => ⟨S1024x32, .f32⟩
  | .local _ .vmem, ⟨23, _⟩ => ⟨S1024x32, .f32⟩
  | .local _ .vmem, ⟨24, _⟩ => ⟨S1024x32, .f32⟩
  | .local _ .vmem, ⟨25, _⟩ => ⟨S1024x32, .f32⟩
  | .local _ .vmem, ⟨26, _⟩ => ⟨S1024x32, .f32⟩
  | .local _ .vmem, ⟨27, _⟩ => ⟨S1024x32, .f32⟩
  | .local _ .vmem, ⟨28, _⟩ => ⟨S1024x32, .f32⟩
  | .local _ .vmem, ⟨29, _⟩ => ⟨S1024x32, .f32⟩
  | .local _ .vmem, ⟨30, _⟩ => ⟨S1024x32, .f32⟩
  | .local _ .vmem, ⟨31, _⟩ => ⟨S1024x32, .f32⟩
  | .local _ .vmem, ⟨32, _⟩ => ⟨S1024x32, .f32⟩
  | .local _ .vmem, ⟨33, _⟩ => ⟨S1024x32, .f32⟩
  | .local _ .vmem, ⟨34, _⟩ => ⟨S1024x32, .f32⟩
  | .local _ .vmem, ⟨35, _⟩ => ⟨S1024x32, .f32⟩
  | .local _ .vmem, ⟨36, _⟩ => ⟨S1024x32, .f32⟩
  | .local _ .vmem, ⟨37, _⟩ => ⟨S1024x32, .f32⟩
  | .local _ .vmem, ⟨38, _⟩ => ⟨S1024x32, .f32⟩
  | .local _ .vmem, ⟨39, _⟩ => ⟨S1024x32, .f32⟩
  | .local _ .vmem, ⟨40, _⟩ => ⟨S1024x32, .f32⟩
  | .local _ .vmem, ⟨41, _⟩ => ⟨S1024x32, .f32⟩
  | .local _ .vmem, ⟨42, _⟩ => ⟨S1024x32, .f32⟩
  | .local _ .vmem, ⟨43, _⟩ => ⟨S1024x32, .f32⟩
  | .local _ .vmem, ⟨44, _⟩ => ⟨S1024x32, .f32⟩
  | .local _ .vmem, ⟨45, _⟩ => ⟨S1024x32, .f32⟩
  | .local _ .vmem, ⟨46, _⟩ => ⟨S1024x32, .f32⟩
  | .local _ .vmem, ⟨47, _⟩ => ⟨S1024x32, .f32⟩
  | .local _ .vmem, ⟨48, _⟩ => ⟨S128x64, .f32⟩
  | .local _ .vmem, ⟨49, _⟩ => ⟨S64x16, .f32⟩
  | .local _ .vmem, ⟨50, _⟩ => ⟨S1024x16, .f32⟩
  | .local _ .vmem, ⟨51, _⟩ => ⟨S1024x16, .f32⟩
  | _, _ => ⟨S4096x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_c_0 : Ref sig .tc := ⟨.hbm, 29, rfl⟩
abbrev main_c_1 : Ref sig .tc := ⟨.hbm, 30, rfl⟩
abbrev main_c_2 : Ref sig .tc := ⟨.hbm, 31, rfl⟩
abbrev main_c_3 : Ref sig .tc := ⟨.hbm, 32, rfl⟩
abbrev main_c_4 : Ref sig .tc := ⟨.hbm, 33, rfl⟩
abbrev main_c_5 : Ref sig .tc := ⟨.hbm, 34, rfl⟩
abbrev main_c_6 : Ref sig .tc := ⟨.hbm, 35, rfl⟩
abbrev main_c_7 : Ref sig .tc := ⟨.hbm, 36, rfl⟩
abbrev main_c_8 : Ref sig .tc := ⟨.hbm, 37, rfl⟩
abbrev main_c_9 : Ref sig .tc := ⟨.hbm, 38, rfl⟩
abbrev main_c_10 : Ref sig .tc := ⟨.hbm, 39, rfl⟩
abbrev main_c_11 : Ref sig .tc := ⟨.hbm, 40, rfl⟩
abbrev main_c_12 : Ref sig .tc := ⟨.hbm, 41, rfl⟩
abbrev main_c_13 : Ref sig .tc := ⟨.hbm, 42, rfl⟩
abbrev main_c_14 : Ref sig .tc := ⟨.hbm, 43, rfl⟩
abbrev main_c_15 : Ref sig .tc := ⟨.hbm, 44, rfl⟩
abbrev main_c_16 : Ref sig .tc := ⟨.hbm, 45, rfl⟩
abbrev main_c_17 : Ref sig .tc := ⟨.hbm, 46, rfl⟩
abbrev main_c_18 : Ref sig .tc := ⟨.hbm, 47, rfl⟩
abbrev main_c_19 : Ref sig .tc := ⟨.hbm, 48, rfl⟩
abbrev main_c_20 : Ref sig .tc := ⟨.hbm, 49, rfl⟩
abbrev main_c_21 : Ref sig .tc := ⟨.hbm, 50, rfl⟩
abbrev main_c_22 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_23 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_c_24 : Ref sig .tc := ⟨.hbm, 63, rfl⟩
abbrev main_v9 : Ref sig .tc := ⟨.hbm, 64, rfl⟩
abbrev main_v10 : Ref sig .tc := ⟨.hbm, 65, rfl⟩
abbrev main_c_25 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_26 : Ref sig .tc := ⟨.hbm, 74, rfl⟩
abbrev main_v18 : Ref sig .tc := ⟨.hbm, 75, rfl⟩
abbrev main_v19 : Ref sig .tc := ⟨.hbm, 76, rfl⟩
abbrev main_cst_27 : Ref sig .tc := ⟨.hbm, 77, rfl⟩
abbrev main_v20 : Ref sig .tc := ⟨.hbm, 78, rfl⟩
abbrev main_v21 : Ref sig .tc := ⟨.hbm, 79, rfl⟩
abbrev main_cst_28 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_29 : Ref sig .tc := ⟨.hbm, 85, rfl⟩
abbrev main_v26 : Ref sig .tc := ⟨.hbm, 86, rfl⟩
abbrev main_v27 : Ref sig .tc := ⟨.hbm, 87, rfl⟩
abbrev main_cst_30 : Ref sig .tc := ⟨.hbm, 88, rfl⟩
abbrev main_v28 : Ref sig .tc := ⟨.hbm, 89, rfl⟩
abbrev main_v29 : Ref sig .tc := ⟨.hbm, 90, rfl⟩
abbrev main_cst_31 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_c_32 : Ref sig .tc := ⟨.hbm, 99, rfl⟩
abbrev main_c_33 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_v37 : Ref sig .tc := ⟨.hbm, 106, rfl⟩
abbrev main_c_34 : Ref sig .tc := ⟨.hbm, 107, rfl⟩
abbrev main_v38 : Ref sig .tc := ⟨.hbm, 108, rfl⟩
abbrev main_v39 : Ref sig .tc := ⟨.hbm, 109, rfl⟩
abbrev main_c_35 : Ref sig .tc := ⟨.hbm, 110, rfl⟩
abbrev main_c_36 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_v40 : Ref sig .tc := ⟨.hbm, 117, rfl⟩
abbrev main_v41 : Ref sig .tc := ⟨.hbm, 118, rfl⟩
abbrev main_c_37 : Ref sig .tc := ⟨.hbm, 119, rfl⟩
abbrev main_c_38 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v42 : Ref sig .tc := ⟨.hbm, 126, rfl⟩
abbrev main_c_39 : Ref sig .tc := ⟨.hbm, 127, rfl⟩
abbrev main_v43 : Ref sig .tc := ⟨.hbm, 128, rfl⟩
abbrev main_v44 : Ref sig .tc := ⟨.hbm, 129, rfl⟩
abbrev main_c_40 : Ref sig .tc := ⟨.hbm, 130, rfl⟩
abbrev main_c_41 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v45 : Ref sig .tc := ⟨.hbm, 137, rfl⟩
abbrev main_c_42 : Ref sig .tc := ⟨.hbm, 138, rfl⟩
abbrev main_v46 : Ref sig .tc := ⟨.hbm, 139, rfl⟩
abbrev main_v47 : Ref sig .tc := ⟨.hbm, 140, rfl⟩
abbrev main_c_43 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_c_44 : Ref sig .tc := ⟨.hbm, 145, rfl⟩
abbrev main_v51 : Ref sig .tc := ⟨.hbm, 146, rfl⟩
abbrev main_v52 : Ref sig .tc := ⟨.hbm, 147, rfl⟩
abbrev main_c_45 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_c_46 : Ref sig .tc := ⟨.hbm, 156, rfl⟩
abbrev main_v60 : Ref sig .tc := ⟨.hbm, 157, rfl⟩
abbrev main_v61 : Ref sig .tc := ⟨.hbm, 158, rfl⟩
abbrev main_c_47 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_c_48 : Ref sig .tc := ⟨.hbm, 163, rfl⟩
abbrev main_v65 : Ref sig .tc := ⟨.hbm, 164, rfl⟩
abbrev main_v66 : Ref sig .tc := ⟨.hbm, 165, rfl⟩
abbrev main_c_49 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_c_50 : Ref sig .tc := ⟨.hbm, 174, rfl⟩
abbrev main_v74 : Ref sig .tc := ⟨.hbm, 175, rfl⟩
abbrev main_v75 : Ref sig .tc := ⟨.hbm, 176, rfl⟩
abbrev main_c_51 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_c_52 : Ref sig .tc := ⟨.hbm, 181, rfl⟩
abbrev main_v79 : Ref sig .tc := ⟨.hbm, 182, rfl⟩
abbrev main_v80 : Ref sig .tc := ⟨.hbm, 183, rfl⟩
abbrev main_c_53 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_c_54 : Ref sig .tc := ⟨.hbm, 192, rfl⟩
abbrev main_v88 : Ref sig .tc := ⟨.hbm, 193, rfl⟩
abbrev main_v89 : Ref sig .tc := ⟨.hbm, 194, rfl⟩
abbrev main_c_55 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_c_56 : Ref sig .tc := ⟨.hbm, 199, rfl⟩
abbrev main_v93 : Ref sig .tc := ⟨.hbm, 200, rfl⟩
abbrev main_v94 : Ref sig .tc := ⟨.hbm, 201, rfl⟩
abbrev main_c_57 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_cst_58 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_cst_59 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_cst_60 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_cst_61 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_c_62 : Ref sig .tc := ⟨.hbm, 250, rfl⟩
abbrev main_v138 : Ref sig .tc := ⟨.hbm, 251, rfl⟩
abbrev main_v139 : Ref sig .tc := ⟨.hbm, 252, rfl⟩
abbrev main_c_63 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_cst_64 : Ref sig .tc := ⟨.hbm, 261, rfl⟩
abbrev main_v147 : Ref sig .tc := ⟨.hbm, 262, rfl⟩
abbrev main_v148 : Ref sig .tc := ⟨.hbm, 263, rfl⟩
abbrev main_cst_65 : Ref sig .tc := ⟨.hbm, 264, rfl⟩
abbrev main_v149 : Ref sig .tc := ⟨.hbm, 265, rfl⟩
abbrev main_v150 : Ref sig .tc := ⟨.hbm, 266, rfl⟩
abbrev main_cst_66 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_cst_67 : Ref sig .tc := ⟨.hbm, 272, rfl⟩
abbrev main_v155 : Ref sig .tc := ⟨.hbm, 273, rfl⟩
abbrev main_v156 : Ref sig .tc := ⟨.hbm, 274, rfl⟩
abbrev main_cst_68 : Ref sig .tc := ⟨.hbm, 275, rfl⟩
abbrev main_v157 : Ref sig .tc := ⟨.hbm, 276, rfl⟩
abbrev main_v158 : Ref sig .tc := ⟨.hbm, 277, rfl⟩
abbrev main_cst_69 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_c_70 : Ref sig .tc := ⟨.hbm, 286, rfl⟩
abbrev main_c_71 : Ref sig .tc := ⟨.hbm, 287, rfl⟩
abbrev main_call4_v0 : Ref sig .tc := ⟨.hbm, 288, rfl⟩
abbrev main_call4_v1 : Ref sig .tc := ⟨.hbm, 289, rfl⟩
abbrev main_call4_v2 : Ref sig .tc := ⟨.hbm, 290, rfl⟩
abbrev main_call4_v3 : Ref sig .tc := ⟨.hbm, 291, rfl⟩
abbrev main_call4_v4 : Ref sig .tc := ⟨.hbm, 292, rfl⟩
abbrev main_v166 : Ref sig .tc := ⟨.hbm, 293, rfl⟩
abbrev main_c_72 : Ref sig .tc := ⟨.hbm, 294, rfl⟩
abbrev main_v167 : Ref sig .tc := ⟨.hbm, 295, rfl⟩
abbrev main_v168 : Ref sig .tc := ⟨.hbm, 296, rfl⟩
abbrev main_c_73 : Ref sig .tc := ⟨.hbm, 297, rfl⟩
abbrev main_c_74 : Ref sig .tc := ⟨.hbm, 298, rfl⟩
abbrev main_call5_v0 : Ref sig .tc := ⟨.hbm, 299, rfl⟩
abbrev main_call5_v1 : Ref sig .tc := ⟨.hbm, 300, rfl⟩
abbrev main_call5_v2 : Ref sig .tc := ⟨.hbm, 301, rfl⟩
abbrev main_call5_v3 : Ref sig .tc := ⟨.hbm, 302, rfl⟩
abbrev main_call5_v4 : Ref sig .tc := ⟨.hbm, 303, rfl⟩
abbrev main_v169 : Ref sig .tc := ⟨.hbm, 304, rfl⟩
abbrev main_v170 : Ref sig .tc := ⟨.hbm, 305, rfl⟩
abbrev main_c_75 : Ref sig .tc := ⟨.hbm, 306, rfl⟩
abbrev main_c_76 : Ref sig .tc := ⟨.hbm, 307, rfl⟩
abbrev main_call6_v0 : Ref sig .tc := ⟨.hbm, 308, rfl⟩
abbrev main_call6_v1 : Ref sig .tc := ⟨.hbm, 309, rfl⟩
abbrev main_call6_v2 : Ref sig .tc := ⟨.hbm, 310, rfl⟩
abbrev main_call6_v3 : Ref sig .tc := ⟨.hbm, 311, rfl⟩
abbrev main_call6_v4 : Ref sig .tc := ⟨.hbm, 312, rfl⟩
abbrev main_v171 : Ref sig .tc := ⟨.hbm, 313, rfl⟩
abbrev main_c_77 : Ref sig .tc := ⟨.hbm, 314, rfl⟩
abbrev main_v172 : Ref sig .tc := ⟨.hbm, 315, rfl⟩
abbrev main_v173 : Ref sig .tc := ⟨.hbm, 316, rfl⟩
abbrev main_c_78 : Ref sig .tc := ⟨.hbm, 317, rfl⟩
abbrev main_c_79 : Ref sig .tc := ⟨.hbm, 318, rfl⟩
abbrev main_call7_v0 : Ref sig .tc := ⟨.hbm, 319, rfl⟩
abbrev main_call7_v1 : Ref sig .tc := ⟨.hbm, 320, rfl⟩
abbrev main_call7_v2 : Ref sig .tc := ⟨.hbm, 321, rfl⟩
abbrev main_call7_v3 : Ref sig .tc := ⟨.hbm, 322, rfl⟩
abbrev main_call7_v4 : Ref sig .tc := ⟨.hbm, 323, rfl⟩
abbrev main_v174 : Ref sig .tc := ⟨.hbm, 324, rfl⟩
abbrev main_c_80 : Ref sig .tc := ⟨.hbm, 325, rfl⟩
abbrev main_v175 : Ref sig .tc := ⟨.hbm, 326, rfl⟩
abbrev main_v176 : Ref sig .tc := ⟨.hbm, 327, rfl⟩
abbrev main_c_81 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_c_82 : Ref sig .tc := ⟨.hbm, 332, rfl⟩
abbrev main_v180 : Ref sig .tc := ⟨.hbm, 333, rfl⟩
abbrev main_v181 : Ref sig .tc := ⟨.hbm, 334, rfl⟩
abbrev main_c_83 : Ref sig .tc := ⟨.hbm, 335, rfl⟩
abbrev main_v182 : Ref sig .tc := ⟨.hbm, 336, rfl⟩
abbrev main_v183 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_v188 : Ref sig .tc := ⟨.hbm, 342, rfl⟩
abbrev main_c_84 : Ref sig .tc := ⟨.hbm, 343, rfl⟩
abbrev main_v189 : Ref sig .tc := ⟨.hbm, 344, rfl⟩
abbrev main_v190 : Ref sig .tc := ⟨.hbm, 345, rfl⟩
abbrev main_c_85 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_c_86 : Ref sig .tc := ⟨.hbm, 350, rfl⟩
abbrev main_v194 : Ref sig .tc := ⟨.hbm, 351, rfl⟩
abbrev main_v195 : Ref sig .tc := ⟨.hbm, 352, rfl⟩
abbrev main_c_87 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_c_88 : Ref sig .tc := ⟨.hbm, 361, rfl⟩
abbrev main_v203 : Ref sig .tc := ⟨.hbm, 362, rfl⟩
abbrev main_v204 : Ref sig .tc := ⟨.hbm, 363, rfl⟩
abbrev main_c_89 : Ref sig .tc := ⟨.hbm, 364, rfl⟩
abbrev main_v205 : Ref sig .tc := ⟨.hbm, 365, rfl⟩
abbrev main_v206 : Ref sig .tc := ⟨.hbm, 366, rfl⟩
abbrev main_v207 : Ref sig .tc := ⟨.hbm, 367, rfl⟩
abbrev main_c_90 : Ref sig .tc := ⟨.hbm, 368, rfl⟩
abbrev main_v208 : Ref sig .tc := ⟨.hbm, 369, rfl⟩
abbrev main_v209 : Ref sig .tc := ⟨.hbm, 370, rfl⟩
abbrev main_c_91 : Ref sig .tc := ⟨.hbm, 371, rfl⟩
abbrev main_v210 : Ref sig .tc := ⟨.hbm, 372, rfl⟩
abbrev main_v211 : Ref sig .tc := ⟨.hbm, 373, rfl⟩
abbrev main_v212 : Ref sig .tc := ⟨.hbm, 374, rfl⟩
abbrev main_v213 : Ref sig .tc := ⟨.hbm, 375, rfl⟩
abbrev main_v214 : Ref sig .tc := ⟨.hbm, 376, rfl⟩
abbrev main_v215 : Ref sig .tc := ⟨.hbm, 377, rfl⟩
abbrev main_v216 : Ref sig .tc := ⟨.hbm, 378, rfl⟩
abbrev main_c_92 : Ref sig .tc := ⟨.hbm, 379, rfl⟩
abbrev main_v217 : Ref sig .tc := ⟨.hbm, 380, rfl⟩
abbrev main_v218 : Ref sig .tc := ⟨.hbm, 381, rfl⟩
abbrev main_c_93 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_c_94 : Ref sig .tc := ⟨.hbm, 386, rfl⟩
abbrev main_v222 : Ref sig .tc := ⟨.hbm, 387, rfl⟩
abbrev main_v223 : Ref sig .tc := ⟨.hbm, 388, rfl⟩
abbrev main_c_95 : Ref sig .tc := ⟨.hbm, 389, rfl⟩
abbrev main_v224 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_v230 : Ref sig .tc := ⟨.hbm, 396, rfl⟩
abbrev main_cst_96 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_cst_97 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_v243 : Ref sig .tc := ⟨.hbm, 411, rfl⟩
abbrev main_cst_98 : Ref sig .tc := ⟨.hbm, 412, rfl⟩
abbrev main_v244 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_v248 : Ref sig .tc := ⟨.hbm, 417, rfl⟩
abbrev main_v249 : Ref sig .tc := ⟨.hbm, 418, rfl⟩
abbrev main_cst_99 : Ref sig .tc := ⟨.hbm, 419, rfl⟩
abbrev main_v250 : Ref sig .tc := ⟨.hbm, 420, rfl⟩
abbrev main_v251 : Ref sig .tc := ⟨.hbm, 421, rfl⟩
abbrev main_v252 : Ref sig .tc := ⟨.hbm, 422, rfl⟩
abbrev main_v253 : Ref sig .tc := ⟨.hbm, 423, rfl⟩
abbrev main_v254 : Ref sig .tc := ⟨.hbm, 424, rfl⟩
abbrev main_v255 : Ref sig .tc := ⟨.hbm, 425, rfl⟩
abbrev main_v256 : Ref sig .tc := ⟨.hbm, 426, rfl⟩
abbrev main_v257 : Ref sig .tc := ⟨.hbm, 427, rfl⟩
abbrev main_v258 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_c_100 : Ref sig .tc := ⟨.hbm, 437, rfl⟩
abbrev main_v267 : Ref sig .tc := ⟨.hbm, 438, rfl⟩
abbrev main_v268 : Ref sig .tc := ⟨.hbm, 439, rfl⟩
abbrev main_c_101 : Ref sig .tc := ⟨.hbm, 440, rfl⟩
abbrev main_v269 : Ref sig .tc := ⟨.hbm, 441, rfl⟩
abbrev main_v270 : Ref sig .tc := ⟨.hbm, 442, rfl⟩
abbrev main_v271 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_cst_102 : Ref sig .tc := ⟨.hbm, 448, rfl⟩
abbrev main_v276 : Ref sig .tc := ⟨.hbm, 449, rfl⟩
abbrev main_v277 : Ref sig .tc := ⟨.hbm, 450, rfl⟩
abbrev main_cst_103 : Ref sig .tc := ⟨.hbm, 451, rfl⟩
abbrev main_v278 : Ref sig .tc := ⟨.hbm, 452, rfl⟩
abbrev main_v279 : Ref sig .tc := ⟨.hbm, 453, rfl⟩
abbrev main_cst_104 : Ref sig .tc := ⟨.hbm, 454, rfl⟩
abbrev main_v280 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_cst_105 : Ref sig .tc := ⟨.hbm, 459, rfl⟩
abbrev main_v284 : Ref sig .tc := ⟨.hbm, 460, rfl⟩
abbrev main_v285 : Ref sig .tc := ⟨.hbm, 461, rfl⟩
abbrev main_cst_106 : Ref sig .tc := ⟨.hbm, 462, rfl⟩
abbrev main_v286 : Ref sig .tc := ⟨.hbm, 463, rfl⟩
abbrev main_v287 : Ref sig .tc := ⟨.hbm, 464, rfl⟩
abbrev main_cst_107 : Ref sig .tc := ⟨.hbm, 465, rfl⟩
abbrev main_v288 : Ref sig .tc := ⟨.hbm, 466, rfl⟩
abbrev main_v289 : Ref sig .tc := ⟨.hbm, 467, rfl⟩
abbrev main_v290 : Ref sig .tc := ⟨.hbm, 468, rfl⟩
abbrev main_v291 : Ref sig .tc := ⟨.hbm, 469, rfl⟩
abbrev main_v292 : Ref sig .tc := ⟨.hbm, 470, rfl⟩
abbrev main_v293 : Ref sig .tc := ⟨.hbm, 471, rfl⟩
abbrev main_v294 : Ref sig .tc := ⟨.hbm, 472, rfl⟩
abbrev main_c_108 : Ref sig .tc := ⟨.hbm, 473, rfl⟩
abbrev main_c_109 : Ref sig .tc := ⟨.hbm, 474, rfl⟩
abbrev main_call8_v0 : Ref sig .tc := ⟨.hbm, 475, rfl⟩
abbrev main_call8_v1 : Ref sig .tc := ⟨.hbm, 476, rfl⟩
abbrev main_call8_v2 : Ref sig .tc := ⟨.hbm, 477, rfl⟩
abbrev main_call8_v3 : Ref sig .tc := ⟨.hbm, 478, rfl⟩
abbrev main_call8_v4 : Ref sig .tc := ⟨.hbm, 479, rfl⟩
abbrev main_v295 : Ref sig .tc := ⟨.hbm, 480, rfl⟩
abbrev main_c_110 : Ref sig .tc := ⟨.hbm, 481, rfl⟩
abbrev main_v296 : Ref sig .tc := ⟨.hbm, 482, rfl⟩
abbrev main_v297 : Ref sig .tc := ⟨.hbm, 483, rfl⟩
abbrev main_c_111 : Ref sig .tc := ⟨.hbm, 484, rfl⟩
abbrev main_c_112 : Ref sig .tc := ⟨.hbm, 485, rfl⟩
abbrev main_call9_v0 : Ref sig .tc := ⟨.hbm, 486, rfl⟩
abbrev main_call9_v1 : Ref sig .tc := ⟨.hbm, 487, rfl⟩
abbrev main_call9_v2 : Ref sig .tc := ⟨.hbm, 488, rfl⟩
abbrev main_call9_v3 : Ref sig .tc := ⟨.hbm, 489, rfl⟩
abbrev main_call9_v4 : Ref sig .tc := ⟨.hbm, 490, rfl⟩
abbrev main_v298 : Ref sig .tc := ⟨.hbm, 491, rfl⟩
abbrev main_v299 : Ref sig .tc := ⟨.hbm, 492, rfl⟩
abbrev main_c_113 : Ref sig .tc := ⟨.hbm, 493, rfl⟩
abbrev main_c_114 : Ref sig .tc := ⟨.hbm, 494, rfl⟩
abbrev main_call10_v0 : Ref sig .tc := ⟨.hbm, 495, rfl⟩
abbrev main_call10_v1 : Ref sig .tc := ⟨.hbm, 496, rfl⟩
abbrev main_call10_v2 : Ref sig .tc := ⟨.hbm, 497, rfl⟩
abbrev main_call10_v3 : Ref sig .tc := ⟨.hbm, 498, rfl⟩
abbrev main_call10_v4 : Ref sig .tc := ⟨.hbm, 499, rfl⟩
abbrev main_v300 : Ref sig .tc := ⟨.hbm, 500, rfl⟩
abbrev main_c_115 : Ref sig .tc := ⟨.hbm, 501, rfl⟩
abbrev main_v301 : Ref sig .tc := ⟨.hbm, 502, rfl⟩
abbrev main_v302 : Ref sig .tc := ⟨.hbm, 503, rfl⟩
abbrev main_c_116 : Ref sig .tc := ⟨.hbm, 504, rfl⟩
abbrev main_c_117 : Ref sig .tc := ⟨.hbm, 505, rfl⟩
abbrev main_call11_v0 : Ref sig .tc := ⟨.hbm, 506, rfl⟩
abbrev main_call11_v1 : Ref sig .tc := ⟨.hbm, 507, rfl⟩
abbrev main_call11_v2 : Ref sig .tc := ⟨.hbm, 508, rfl⟩
abbrev main_call11_v3 : Ref sig .tc := ⟨.hbm, 509, rfl⟩
abbrev main_call11_v4 : Ref sig .tc := ⟨.hbm, 510, rfl⟩
abbrev main_v303 : Ref sig .tc := ⟨.hbm, 511, rfl⟩
abbrev main_c_118 : Ref sig .tc := ⟨.hbm, 512, rfl⟩
abbrev main_v304 : Ref sig .tc := ⟨.hbm, 513, rfl⟩
abbrev main_v305 : Ref sig .tc := ⟨.hbm, 514, rfl⟩
abbrev main_c_119 : Ref sig .tc := ⟨.hbm, 515, rfl⟩
abbrev main_v306 : Ref sig .tc := ⟨.hbm, 516, rfl⟩
abbrev main_v307 : Ref sig .tc := ⟨.hbm, 517, rfl⟩
abbrev main_v308 : Ref sig .tc := ⟨.hbm, 518, rfl⟩
abbrev main_c_120 : Ref sig .tc := ⟨.hbm, 519, rfl⟩
abbrev main_v309 : Ref sig .tc := ⟨.hbm, 520, rfl⟩
abbrev main_v310 : Ref sig .tc := ⟨.hbm, 521, rfl⟩
abbrev main_c_121 : Ref sig .tc := ⟨.hbm, 522, rfl⟩
abbrev main_v311 : Ref sig .tc := ⟨.hbm, 523, rfl⟩
abbrev main_v312 : Ref sig .tc := ⟨.hbm, 524, rfl⟩
abbrev main_v313 : Ref sig .tc := ⟨.hbm, 525, rfl⟩
abbrev main_v314 : Ref sig .tc := ⟨.hbm, 526, rfl⟩
abbrev main_v315 : Ref sig .tc := ⟨.hbm, 527, rfl⟩
abbrev main_v316 : Ref sig .tc := ⟨.hbm, 528, rfl⟩
abbrev main_v317 : Ref sig .tc := ⟨.hbm, 529, rfl⟩
abbrev main_c_122 : Ref sig .tc := ⟨.hbm, 530, rfl⟩
abbrev main_v318 : Ref sig .tc := ⟨.hbm, 531, rfl⟩
abbrev main_v319 : Ref sig .tc := ⟨.hbm, 532, rfl⟩
abbrev main_c_123 : Ref sig .tc := ⟨.hbm, 533, rfl⟩
abbrev main_v320 : Ref sig .tc := ⟨.hbm, 534, rfl⟩
abbrev main_v321 : Ref sig .tc := ⟨.hbm, 535, rfl⟩
abbrev main_v322 : Ref sig .tc := ⟨.hbm, 536, rfl⟩
abbrev main_c_124 : Ref sig .tc := ⟨.hbm, 537, rfl⟩
abbrev main_v323 : Ref sig .tc := ⟨.hbm, 538, rfl⟩
abbrev main_v324 : Ref sig .tc := ⟨.hbm, 539, rfl⟩
abbrev main_c_125 : Ref sig .tc := ⟨.hbm, 540, rfl⟩
abbrev main_v325 : Ref sig .tc := ⟨.hbm, 541, rfl⟩
abbrev main_v326 : Ref sig .tc := ⟨.hbm, 542, rfl⟩
abbrev main_v327 : Ref sig .tc := ⟨.hbm, 543, rfl⟩
abbrev main_v328 : Ref sig .tc := ⟨.hbm, 544, rfl⟩
abbrev main_v329 : Ref sig .tc := ⟨.hbm, 545, rfl⟩
abbrev main_v330 : Ref sig .tc := ⟨.hbm, 546, rfl⟩
abbrev main_v331 : Ref sig .tc := ⟨.hbm, 547, rfl⟩
abbrev main_c_126 : Ref sig .tc := ⟨.hbm, 548, rfl⟩
abbrev main_v332 : Ref sig .tc := ⟨.hbm, 549, rfl⟩
abbrev main_v333 : Ref sig .tc := ⟨.hbm, 550, rfl⟩
abbrev main_c_127 : Ref sig .tc := ⟨.hbm, 551, rfl⟩
abbrev main_v334 : Ref sig .tc := ⟨.hbm, 552, rfl⟩
abbrev main_v335 : Ref sig .tc := ⟨.hbm, 553, rfl⟩
abbrev main_v336 : Ref sig .tc := ⟨.hbm, 554, rfl⟩
abbrev main_c_128 : Ref sig .tc := ⟨.hbm, 555, rfl⟩
abbrev main_v337 : Ref sig .tc := ⟨.hbm, 556, rfl⟩
abbrev main_v338 : Ref sig .tc := ⟨.hbm, 557, rfl⟩
abbrev main_c_129 : Ref sig .tc := ⟨.hbm, 558, rfl⟩
abbrev main_v339 : Ref sig .tc := ⟨.hbm, 559, rfl⟩
abbrev main_v340 : Ref sig .tc := ⟨.hbm, 560, rfl⟩
abbrev main_v341 : Ref sig .tc := ⟨.hbm, 561, rfl⟩
abbrev main_v342 : Ref sig .tc := ⟨.hbm, 562, rfl⟩
abbrev main_v343 : Ref sig .tc := ⟨.hbm, 563, rfl⟩
abbrev main_v344 : Ref sig .tc := ⟨.hbm, 564, rfl⟩
abbrev main_v345 : Ref sig .tc := ⟨.hbm, 565, rfl⟩
abbrev main_c_130 : Ref sig .tc := ⟨.hbm, 566, rfl⟩
abbrev main_v346 : Ref sig .tc := ⟨.hbm, 567, rfl⟩
abbrev main_v347 : Ref sig .tc := ⟨.hbm, 568, rfl⟩
abbrev main_c_131 : Ref sig .tc := ⟨.hbm, 569, rfl⟩
abbrev main_v348 : Ref sig .tc := ⟨.hbm, 570, rfl⟩
abbrev main_v349 : Ref sig .tc := ⟨.hbm, 571, rfl⟩
abbrev main_v350 : Ref sig .tc := ⟨.hbm, 572, rfl⟩
abbrev main_c_132 : Ref sig .tc := ⟨.hbm, 573, rfl⟩
abbrev main_v351 : Ref sig .tc := ⟨.hbm, 574, rfl⟩
abbrev main_v352 : Ref sig .tc := ⟨.hbm, 575, rfl⟩
abbrev main_c_133 : Ref sig .tc := ⟨.hbm, 576, rfl⟩
abbrev main_v353 : Ref sig .tc := ⟨.hbm, 577, rfl⟩
abbrev main_v354 : Ref sig .tc := ⟨.hbm, 578, rfl⟩
abbrev main_v355 : Ref sig .tc := ⟨.hbm, 579, rfl⟩
abbrev main_v356 : Ref sig .tc := ⟨.hbm, 580, rfl⟩
abbrev main_v357 : Ref sig .tc := ⟨.hbm, 581, rfl⟩
abbrev main_v358 : Ref sig .tc := ⟨.hbm, 582, rfl⟩
abbrev main_v359 : Ref sig .tc := ⟨.hbm, 583, rfl⟩
abbrev main_cst_134 : Ref sig .tc := ⟨.hbm, 584, rfl⟩
abbrev main_v360 : Ref sig .tc := ⟨.hbm, 585, rfl⟩
abbrev main_v361 : Ref sig .tc := ⟨.hbm, 586, rfl⟩
abbrev main_v362 : Ref sig .tc := ⟨.hbm, 587, rfl⟩
abbrev main_v363 : Ref sig .tc := ⟨.hbm, 588, rfl⟩
abbrev main_v364 : Ref sig .tc := ⟨.hbm, 589, rfl⟩
abbrev main_cst_135 : Ref sig .tc := ⟨.hbm, 590, rfl⟩
abbrev main_v365 : Ref sig .tc := ⟨.hbm, 591, rfl⟩
abbrev main_v366 : Ref sig .tc := ⟨.hbm, 592, rfl⟩
abbrev main_v367 : Ref sig .tc := ⟨.hbm, 593, rfl⟩
abbrev main_v368 : Ref sig .tc := ⟨.hbm, 594, rfl⟩
abbrev main_v369 : Ref sig .tc := ⟨.hbm, 595, rfl⟩
abbrev main_v370 : Ref sig .tc := ⟨.hbm, 596, rfl⟩
abbrev main_v371 : Ref sig .tc := ⟨.hbm, 597, rfl⟩
abbrev main_v372 : Ref sig .tc := ⟨.hbm, 598, rfl⟩
abbrev main_cst_136 : Ref sig .tc := ⟨.hbm, 599, rfl⟩
abbrev main_v373 : Ref sig .tc := ⟨.hbm, 600, rfl⟩
abbrev main_v374 : Ref sig .tc := ⟨.hbm, 601, rfl⟩
abbrev main_v375 : Ref sig .tc := ⟨.hbm, 602, rfl⟩
abbrev main_v376 : Ref sig .tc := ⟨.hbm, 603, rfl⟩
abbrev main_v377 : Ref sig .tc := ⟨.hbm, 604, rfl⟩
abbrev main_v378 : Ref sig .tc := ⟨.hbm, 605, rfl⟩
abbrev main_cst_137 : Ref sig .tc := ⟨.hbm, 606, rfl⟩
abbrev main_v379 : Ref sig .tc := ⟨.hbm, 607, rfl⟩
abbrev main_v380 : Ref sig .tc := ⟨.hbm, 608, rfl⟩
abbrev main_v381 : Ref sig .tc := ⟨.hbm, 609, rfl⟩
abbrev main_v382 : Ref sig .tc := ⟨.hbm, 610, rfl⟩
abbrev main_v383 : Ref sig .tc := ⟨.hbm, 611, rfl⟩
abbrev main_v384 : Ref sig .tc := ⟨.hbm, 612, rfl⟩
abbrev main_v385 : Ref sig .tc := ⟨.hbm, 613, rfl⟩
abbrev main_v386 : Ref sig .tc := ⟨.hbm, 614, rfl⟩
abbrev main_v387 : Ref sig .tc := ⟨.hbm, 615, rfl⟩
abbrev main_v388 : Ref sig .tc := ⟨.hbm, 616, rfl⟩
abbrev main_v389 : Ref sig .tc := ⟨.hbm, 617, rfl⟩
abbrev main_v390 : Ref sig .tc := ⟨.hbm, 618, rfl⟩
abbrev main_v391 : Ref sig .tc := ⟨.hbm, 619, rfl⟩
abbrev main_v392 : Ref sig .tc := ⟨.hbm, 620, rfl⟩
abbrev main_v393 : Ref sig .tc := ⟨.hbm, 621, rfl⟩
abbrev main_v394 : Ref sig .tc := ⟨.hbm, 622, rfl⟩
abbrev main_v395 : Ref sig .tc := ⟨.hbm, 623, rfl⟩
abbrev main_c_138 : Ref sig .tc := ⟨.hbm, 624, rfl⟩
abbrev main_v396 : Ref sig .tc := ⟨.hbm, 625, rfl⟩
abbrev main_v397 : Ref sig .tc := ⟨.hbm, 626, rfl⟩
abbrev main_c_139 : Ref sig .tc := ⟨.hbm, 627, rfl⟩
abbrev main_v398 : Ref sig .tc := ⟨.hbm, 628, rfl⟩
abbrev main_v399 : Ref sig .tc := ⟨.hbm, 629, rfl⟩
abbrev main_v400 : Ref sig .tc := ⟨.hbm, 630, rfl⟩
abbrev main_v401 : Ref sig .tc := ⟨.hbm, 631, rfl⟩
abbrev main_v402 : Ref sig .tc := ⟨.hbm, 632, rfl⟩
abbrev main_v403 : Ref sig .tc := ⟨.hbm, 633, rfl⟩
abbrev main_v404 : Ref sig .tc := ⟨.hbm, 634, rfl⟩
abbrev main_cst_140 : Ref sig .tc := ⟨.hbm, 635, rfl⟩
abbrev main_v405 : Ref sig .tc := ⟨.hbm, 636, rfl⟩
abbrev main_v406 : Ref sig .tc := ⟨.hbm, 637, rfl⟩
abbrev main_cst_141 : Ref sig .tc := ⟨.hbm, 638, rfl⟩
abbrev main_v407 : Ref sig .tc := ⟨.hbm, 639, rfl⟩
abbrev main_v408 : Ref sig .tc := ⟨.hbm, 640, rfl⟩
abbrev main_cst_142 : Ref sig .tc := ⟨.hbm, 641, rfl⟩
abbrev main_v409 : Ref sig .tc := ⟨.hbm, 642, rfl⟩
abbrev main_v410 : Ref sig .tc := ⟨.hbm, 643, rfl⟩
abbrev main_v411 : Ref sig .tc := ⟨.hbm, 644, rfl⟩
abbrev main_v412 : Ref sig .tc := ⟨.hbm, 645, rfl⟩
abbrev main_cst_143 : Ref sig .tc := ⟨.hbm, 646, rfl⟩
abbrev main_v413 : Ref sig .tc := ⟨.hbm, 647, rfl⟩
abbrev main_v414 : Ref sig .tc := ⟨.hbm, 648, rfl⟩
abbrev main_cst_144 : Ref sig .tc := ⟨.hbm, 649, rfl⟩
abbrev main_v415 : Ref sig .tc := ⟨.hbm, 650, rfl⟩
abbrev main_v416 : Ref sig .tc := ⟨.hbm, 651, rfl⟩
abbrev main_cst_145 : Ref sig .tc := ⟨.hbm, 652, rfl⟩
abbrev main_v417 : Ref sig .tc := ⟨.hbm, 653, rfl⟩
abbrev main_v418 : Ref sig .tc := ⟨.hbm, 654, rfl⟩
abbrev main_v419 : Ref sig .tc := ⟨.hbm, 655, rfl⟩
abbrev main_v420 : Ref sig .tc := ⟨.hbm, 656, rfl⟩
abbrev main_v421 : Ref sig .tc := ⟨.hbm, 657, rfl⟩
abbrev main_v422 : Ref sig .tc := ⟨.hbm, 658, rfl⟩
abbrev main_v423 : Ref sig .tc := ⟨.hbm, 659, rfl⟩
abbrev main_c_146 : Ref sig .tc := ⟨.hbm, 660, rfl⟩
abbrev main_c_147 : Ref sig .tc := ⟨.hbm, 661, rfl⟩
abbrev main_call12_v0 : Ref sig .tc := ⟨.hbm, 662, rfl⟩
abbrev main_call12_v1 : Ref sig .tc := ⟨.hbm, 663, rfl⟩
abbrev main_call12_v2 : Ref sig .tc := ⟨.hbm, 664, rfl⟩
abbrev main_call12_v3 : Ref sig .tc := ⟨.hbm, 665, rfl⟩
abbrev main_call12_v4 : Ref sig .tc := ⟨.hbm, 666, rfl⟩
abbrev main_v424 : Ref sig .tc := ⟨.hbm, 667, rfl⟩
abbrev main_c_148 : Ref sig .tc := ⟨.hbm, 668, rfl⟩
abbrev main_v425 : Ref sig .tc := ⟨.hbm, 669, rfl⟩
abbrev main_v426 : Ref sig .tc := ⟨.hbm, 670, rfl⟩
abbrev main_c_149 : Ref sig .tc := ⟨.hbm, 671, rfl⟩
abbrev main_c_150 : Ref sig .tc := ⟨.hbm, 672, rfl⟩
abbrev main_call13_v0 : Ref sig .tc := ⟨.hbm, 673, rfl⟩
abbrev main_call13_v1 : Ref sig .tc := ⟨.hbm, 674, rfl⟩
abbrev main_call13_v2 : Ref sig .tc := ⟨.hbm, 675, rfl⟩
abbrev main_call13_v3 : Ref sig .tc := ⟨.hbm, 676, rfl⟩
abbrev main_call13_v4 : Ref sig .tc := ⟨.hbm, 677, rfl⟩
abbrev main_v427 : Ref sig .tc := ⟨.hbm, 678, rfl⟩
abbrev main_v428 : Ref sig .tc := ⟨.hbm, 679, rfl⟩
abbrev main_c_151 : Ref sig .tc := ⟨.hbm, 680, rfl⟩
abbrev main_c_152 : Ref sig .tc := ⟨.hbm, 681, rfl⟩
abbrev main_call14_v0 : Ref sig .tc := ⟨.hbm, 682, rfl⟩
abbrev main_call14_v1 : Ref sig .tc := ⟨.hbm, 683, rfl⟩
abbrev main_call14_v2 : Ref sig .tc := ⟨.hbm, 684, rfl⟩
abbrev main_call14_v3 : Ref sig .tc := ⟨.hbm, 685, rfl⟩
abbrev main_call14_v4 : Ref sig .tc := ⟨.hbm, 686, rfl⟩
abbrev main_v429 : Ref sig .tc := ⟨.hbm, 687, rfl⟩
abbrev main_c_153 : Ref sig .tc := ⟨.hbm, 688, rfl⟩
abbrev main_v430 : Ref sig .tc := ⟨.hbm, 689, rfl⟩
abbrev main_v431 : Ref sig .tc := ⟨.hbm, 690, rfl⟩
abbrev main_c_154 : Ref sig .tc := ⟨.hbm, 691, rfl⟩
abbrev main_c_155 : Ref sig .tc := ⟨.hbm, 692, rfl⟩
abbrev main_call15_v0 : Ref sig .tc := ⟨.hbm, 693, rfl⟩
abbrev main_call15_v1 : Ref sig .tc := ⟨.hbm, 694, rfl⟩
abbrev main_call15_v2 : Ref sig .tc := ⟨.hbm, 695, rfl⟩
abbrev main_call15_v3 : Ref sig .tc := ⟨.hbm, 696, rfl⟩
abbrev main_call15_v4 : Ref sig .tc := ⟨.hbm, 697, rfl⟩
abbrev main_v432 : Ref sig .tc := ⟨.hbm, 698, rfl⟩
abbrev main_c_156 : Ref sig .tc := ⟨.hbm, 699, rfl⟩
abbrev main_v433 : Ref sig .tc := ⟨.hbm, 700, rfl⟩
abbrev main_v434 : Ref sig .tc := ⟨.hbm, 701, rfl⟩
abbrev main_c_157 : Ref sig .tc := ⟨.hbm, 702, rfl⟩
abbrev main_v435 : Ref sig .tc := ⟨.hbm, 703, rfl⟩
abbrev main_v436 : Ref sig .tc := ⟨.hbm, 704, rfl⟩
abbrev main_v437 : Ref sig .tc := ⟨.hbm, 705, rfl⟩
abbrev main_c_158 : Ref sig .tc := ⟨.hbm, 706, rfl⟩
abbrev main_v438 : Ref sig .tc := ⟨.hbm, 707, rfl⟩
abbrev main_v439 : Ref sig .tc := ⟨.hbm, 708, rfl⟩
abbrev main_c_159 : Ref sig .tc := ⟨.hbm, 709, rfl⟩
abbrev main_v440 : Ref sig .tc := ⟨.hbm, 710, rfl⟩
abbrev main_v441 : Ref sig .tc := ⟨.hbm, 711, rfl⟩
abbrev main_v442 : Ref sig .tc := ⟨.hbm, 712, rfl⟩
abbrev main_v443 : Ref sig .tc := ⟨.hbm, 713, rfl⟩
abbrev main_v444 : Ref sig .tc := ⟨.hbm, 714, rfl⟩
abbrev main_v445 : Ref sig .tc := ⟨.hbm, 715, rfl⟩
abbrev main_v446 : Ref sig .tc := ⟨.hbm, 716, rfl⟩
abbrev main_c_160 : Ref sig .tc := ⟨.hbm, 717, rfl⟩
abbrev main_v447 : Ref sig .tc := ⟨.hbm, 718, rfl⟩
abbrev main_v448 : Ref sig .tc := ⟨.hbm, 719, rfl⟩
abbrev main_c_161 : Ref sig .tc := ⟨.hbm, 720, rfl⟩
abbrev main_v449 : Ref sig .tc := ⟨.hbm, 721, rfl⟩
abbrev main_v450 : Ref sig .tc := ⟨.hbm, 722, rfl⟩
abbrev main_v451 : Ref sig .tc := ⟨.hbm, 723, rfl⟩
abbrev main_c_162 : Ref sig .tc := ⟨.hbm, 724, rfl⟩
abbrev main_v452 : Ref sig .tc := ⟨.hbm, 725, rfl⟩
abbrev main_v453 : Ref sig .tc := ⟨.hbm, 726, rfl⟩
abbrev main_c_163 : Ref sig .tc := ⟨.hbm, 727, rfl⟩
abbrev main_v454 : Ref sig .tc := ⟨.hbm, 728, rfl⟩
abbrev main_v455 : Ref sig .tc := ⟨.hbm, 729, rfl⟩
abbrev main_v456 : Ref sig .tc := ⟨.hbm, 730, rfl⟩
abbrev main_v457 : Ref sig .tc := ⟨.hbm, 731, rfl⟩
abbrev main_v458 : Ref sig .tc := ⟨.hbm, 732, rfl⟩
abbrev main_v459 : Ref sig .tc := ⟨.hbm, 733, rfl⟩
abbrev main_v460 : Ref sig .tc := ⟨.hbm, 734, rfl⟩
abbrev main_c_164 : Ref sig .tc := ⟨.hbm, 735, rfl⟩
abbrev main_v461 : Ref sig .tc := ⟨.hbm, 736, rfl⟩
abbrev main_v462 : Ref sig .tc := ⟨.hbm, 737, rfl⟩
abbrev main_c_165 : Ref sig .tc := ⟨.hbm, 738, rfl⟩
abbrev main_v463 : Ref sig .tc := ⟨.hbm, 739, rfl⟩
abbrev main_v464 : Ref sig .tc := ⟨.hbm, 740, rfl⟩
abbrev main_v465 : Ref sig .tc := ⟨.hbm, 741, rfl⟩
abbrev main_c_166 : Ref sig .tc := ⟨.hbm, 742, rfl⟩
abbrev main_v466 : Ref sig .tc := ⟨.hbm, 743, rfl⟩
abbrev main_v467 : Ref sig .tc := ⟨.hbm, 744, rfl⟩
abbrev main_c_167 : Ref sig .tc := ⟨.hbm, 745, rfl⟩
abbrev main_v468 : Ref sig .tc := ⟨.hbm, 746, rfl⟩
abbrev main_v469 : Ref sig .tc := ⟨.hbm, 747, rfl⟩
abbrev main_v470 : Ref sig .tc := ⟨.hbm, 748, rfl⟩
abbrev main_v471 : Ref sig .tc := ⟨.hbm, 749, rfl⟩
abbrev main_v472 : Ref sig .tc := ⟨.hbm, 750, rfl⟩
abbrev main_v473 : Ref sig .tc := ⟨.hbm, 751, rfl⟩
abbrev main_v474 : Ref sig .tc := ⟨.hbm, 752, rfl⟩
abbrev main_c_168 : Ref sig .tc := ⟨.hbm, 753, rfl⟩
abbrev main_v475 : Ref sig .tc := ⟨.hbm, 754, rfl⟩
abbrev main_v476 : Ref sig .tc := ⟨.hbm, 755, rfl⟩
abbrev main_c_169 : Ref sig .tc := ⟨.hbm, 756, rfl⟩
abbrev main_v477 : Ref sig .tc := ⟨.hbm, 757, rfl⟩
abbrev main_v478 : Ref sig .tc := ⟨.hbm, 758, rfl⟩
abbrev main_v479 : Ref sig .tc := ⟨.hbm, 759, rfl⟩
abbrev main_c_170 : Ref sig .tc := ⟨.hbm, 760, rfl⟩
abbrev main_v480 : Ref sig .tc := ⟨.hbm, 761, rfl⟩
abbrev main_v481 : Ref sig .tc := ⟨.hbm, 762, rfl⟩
abbrev main_c_171 : Ref sig .tc := ⟨.hbm, 763, rfl⟩
abbrev main_v482 : Ref sig .tc := ⟨.hbm, 764, rfl⟩
abbrev main_v483 : Ref sig .tc := ⟨.hbm, 765, rfl⟩
abbrev main_v484 : Ref sig .tc := ⟨.hbm, 766, rfl⟩
abbrev main_v485 : Ref sig .tc := ⟨.hbm, 767, rfl⟩
abbrev main_v486 : Ref sig .tc := ⟨.hbm, 768, rfl⟩
abbrev main_v487 : Ref sig .tc := ⟨.hbm, 769, rfl⟩
abbrev main_v488 : Ref sig .tc := ⟨.hbm, 770, rfl⟩
abbrev main_cst_172 : Ref sig .tc := ⟨.hbm, 771, rfl⟩
abbrev main_v489 : Ref sig .tc := ⟨.hbm, 772, rfl⟩
abbrev main_v490 : Ref sig .tc := ⟨.hbm, 773, rfl⟩
abbrev main_v491 : Ref sig .tc := ⟨.hbm, 774, rfl⟩
abbrev main_v492 : Ref sig .tc := ⟨.hbm, 775, rfl⟩
abbrev main_v493 : Ref sig .tc := ⟨.hbm, 776, rfl⟩
abbrev main_cst_173 : Ref sig .tc := ⟨.hbm, 777, rfl⟩
abbrev main_v494 : Ref sig .tc := ⟨.hbm, 778, rfl⟩
abbrev main_v495 : Ref sig .tc := ⟨.hbm, 779, rfl⟩
abbrev main_v496 : Ref sig .tc := ⟨.hbm, 780, rfl⟩
abbrev main_v497 : Ref sig .tc := ⟨.hbm, 781, rfl⟩
abbrev main_v498 : Ref sig .tc := ⟨.hbm, 782, rfl⟩
abbrev main_v499 : Ref sig .tc := ⟨.hbm, 783, rfl⟩
abbrev main_v500 : Ref sig .tc := ⟨.hbm, 784, rfl⟩
abbrev main_v501 : Ref sig .tc := ⟨.hbm, 785, rfl⟩
abbrev main_cst_174 : Ref sig .tc := ⟨.hbm, 786, rfl⟩
abbrev main_v502 : Ref sig .tc := ⟨.hbm, 787, rfl⟩
abbrev main_v503 : Ref sig .tc := ⟨.hbm, 788, rfl⟩
abbrev main_v504 : Ref sig .tc := ⟨.hbm, 789, rfl⟩
abbrev main_v505 : Ref sig .tc := ⟨.hbm, 790, rfl⟩
abbrev main_v506 : Ref sig .tc := ⟨.hbm, 791, rfl⟩
abbrev main_v507 : Ref sig .tc := ⟨.hbm, 792, rfl⟩
abbrev main_cst_175 : Ref sig .tc := ⟨.hbm, 793, rfl⟩
abbrev main_v508 : Ref sig .tc := ⟨.hbm, 794, rfl⟩
abbrev main_v509 : Ref sig .tc := ⟨.hbm, 795, rfl⟩
abbrev main_v510 : Ref sig .tc := ⟨.hbm, 796, rfl⟩
abbrev main_v511 : Ref sig .tc := ⟨.hbm, 797, rfl⟩
abbrev main_v512 : Ref sig .tc := ⟨.hbm, 798, rfl⟩
abbrev main_v513 : Ref sig .tc := ⟨.hbm, 799, rfl⟩
abbrev main_v514 : Ref sig .tc := ⟨.hbm, 800, rfl⟩
abbrev main_v515 : Ref sig .tc := ⟨.hbm, 801, rfl⟩
abbrev main_v516 : Ref sig .tc := ⟨.hbm, 802, rfl⟩
abbrev main_v517 : Ref sig .tc := ⟨.hbm, 803, rfl⟩
abbrev main_v518 : Ref sig .tc := ⟨.hbm, 804, rfl⟩
abbrev main_v519 : Ref sig .tc := ⟨.hbm, 805, rfl⟩
abbrev main_v520 : Ref sig .tc := ⟨.hbm, 806, rfl⟩
abbrev main_v521 : Ref sig .tc := ⟨.hbm, 807, rfl⟩
abbrev main_v522 : Ref sig .tc := ⟨.hbm, 808, rfl⟩
abbrev main_v523 : Ref sig .tc := ⟨.hbm, 809, rfl⟩
abbrev main_v524 : Ref sig .tc := ⟨.hbm, 810, rfl⟩
abbrev main_c_176 : Ref sig .tc := ⟨.hbm, 811, rfl⟩
abbrev main_v525 : Ref sig .tc := ⟨.hbm, 812, rfl⟩
abbrev main_v526 : Ref sig .tc := ⟨.hbm, 813, rfl⟩
abbrev main_c_177 : Ref sig .tc := ⟨.hbm, 814, rfl⟩
abbrev main_v527 : Ref sig .tc := ⟨.hbm, 815, rfl⟩
abbrev main_v528 : Ref sig .tc := ⟨.hbm, 816, rfl⟩
abbrev main_v529 : Ref sig .tc := ⟨.hbm, 817, rfl⟩
abbrev main_v530 : Ref sig .tc := ⟨.hbm, 818, rfl⟩
abbrev main_v531 : Ref sig .tc := ⟨.hbm, 819, rfl⟩
abbrev main_v532 : Ref sig .tc := ⟨.hbm, 820, rfl⟩
abbrev main_v533 : Ref sig .tc := ⟨.hbm, 821, rfl⟩
abbrev main_cst_178 : Ref sig .tc := ⟨.hbm, 822, rfl⟩
abbrev main_v534 : Ref sig .tc := ⟨.hbm, 823, rfl⟩
abbrev main_v535 : Ref sig .tc := ⟨.hbm, 824, rfl⟩
abbrev main_cst_179 : Ref sig .tc := ⟨.hbm, 825, rfl⟩
abbrev main_v536 : Ref sig .tc := ⟨.hbm, 826, rfl⟩
abbrev main_v537 : Ref sig .tc := ⟨.hbm, 827, rfl⟩
abbrev main_cst_180 : Ref sig .tc := ⟨.hbm, 828, rfl⟩
abbrev main_v538 : Ref sig .tc := ⟨.hbm, 829, rfl⟩
abbrev main_v539 : Ref sig .tc := ⟨.hbm, 830, rfl⟩
abbrev main_v540 : Ref sig .tc := ⟨.hbm, 831, rfl⟩
abbrev main_v541 : Ref sig .tc := ⟨.hbm, 832, rfl⟩
abbrev main_cst_181 : Ref sig .tc := ⟨.hbm, 833, rfl⟩
abbrev main_v542 : Ref sig .tc := ⟨.hbm, 834, rfl⟩
abbrev main_v543 : Ref sig .tc := ⟨.hbm, 835, rfl⟩
abbrev main_cst_182 : Ref sig .tc := ⟨.hbm, 836, rfl⟩
abbrev main_v544 : Ref sig .tc := ⟨.hbm, 837, rfl⟩
abbrev main_v545 : Ref sig .tc := ⟨.hbm, 838, rfl⟩
abbrev main_cst_183 : Ref sig .tc := ⟨.hbm, 839, rfl⟩
abbrev main_v546 : Ref sig .tc := ⟨.hbm, 840, rfl⟩
abbrev main_v547 : Ref sig .tc := ⟨.hbm, 841, rfl⟩
abbrev main_v548 : Ref sig .tc := ⟨.hbm, 842, rfl⟩
abbrev main_v549 : Ref sig .tc := ⟨.hbm, 843, rfl⟩
abbrev main_v550 : Ref sig .tc := ⟨.hbm, 844, rfl⟩
abbrev main_v551 : Ref sig .tc := ⟨.hbm, 845, rfl⟩
abbrev main_v552 : Ref sig .tc := ⟨.hbm, 846, rfl⟩
abbrev main_c_184 : Ref sig .tc := ⟨.hbm, 847, rfl⟩
abbrev main_c_185 : Ref sig .tc := ⟨.hbm, 848, rfl⟩
abbrev main_call16_v0 : Ref sig .tc := ⟨.hbm, 849, rfl⟩
abbrev main_call16_v1 : Ref sig .tc := ⟨.hbm, 850, rfl⟩
abbrev main_call16_v2 : Ref sig .tc := ⟨.hbm, 851, rfl⟩
abbrev main_call16_v3 : Ref sig .tc := ⟨.hbm, 852, rfl⟩
abbrev main_call16_v4 : Ref sig .tc := ⟨.hbm, 853, rfl⟩
abbrev main_v553 : Ref sig .tc := ⟨.hbm, 854, rfl⟩
abbrev main_c_186 : Ref sig .tc := ⟨.hbm, 855, rfl⟩
abbrev main_v554 : Ref sig .tc := ⟨.hbm, 856, rfl⟩
abbrev main_v555 : Ref sig .tc := ⟨.hbm, 857, rfl⟩
abbrev main_c_187 : Ref sig .tc := ⟨.hbm, 858, rfl⟩
abbrev main_c_188 : Ref sig .tc := ⟨.hbm, 859, rfl⟩
abbrev main_call17_v0 : Ref sig .tc := ⟨.hbm, 860, rfl⟩
abbrev main_call17_v1 : Ref sig .tc := ⟨.hbm, 861, rfl⟩
abbrev main_call17_v2 : Ref sig .tc := ⟨.hbm, 862, rfl⟩
abbrev main_call17_v3 : Ref sig .tc := ⟨.hbm, 863, rfl⟩
abbrev main_call17_v4 : Ref sig .tc := ⟨.hbm, 864, rfl⟩
abbrev main_v556 : Ref sig .tc := ⟨.hbm, 865, rfl⟩
abbrev main_v557 : Ref sig .tc := ⟨.hbm, 866, rfl⟩
abbrev main_c_189 : Ref sig .tc := ⟨.hbm, 867, rfl⟩
abbrev main_c_190 : Ref sig .tc := ⟨.hbm, 868, rfl⟩
abbrev main_call18_v0 : Ref sig .tc := ⟨.hbm, 869, rfl⟩
abbrev main_call18_v1 : Ref sig .tc := ⟨.hbm, 870, rfl⟩
abbrev main_call18_v2 : Ref sig .tc := ⟨.hbm, 871, rfl⟩
abbrev main_call18_v3 : Ref sig .tc := ⟨.hbm, 872, rfl⟩
abbrev main_call18_v4 : Ref sig .tc := ⟨.hbm, 873, rfl⟩
abbrev main_v558 : Ref sig .tc := ⟨.hbm, 874, rfl⟩
abbrev main_c_191 : Ref sig .tc := ⟨.hbm, 875, rfl⟩
abbrev main_v559 : Ref sig .tc := ⟨.hbm, 876, rfl⟩
abbrev main_v560 : Ref sig .tc := ⟨.hbm, 877, rfl⟩
abbrev main_c_192 : Ref sig .tc := ⟨.hbm, 878, rfl⟩
abbrev main_c_193 : Ref sig .tc := ⟨.hbm, 879, rfl⟩
abbrev main_call19_v0 : Ref sig .tc := ⟨.hbm, 880, rfl⟩
abbrev main_call19_v1 : Ref sig .tc := ⟨.hbm, 881, rfl⟩
abbrev main_call19_v2 : Ref sig .tc := ⟨.hbm, 882, rfl⟩
abbrev main_call19_v3 : Ref sig .tc := ⟨.hbm, 883, rfl⟩
abbrev main_call19_v4 : Ref sig .tc := ⟨.hbm, 884, rfl⟩
abbrev main_v561 : Ref sig .tc := ⟨.hbm, 885, rfl⟩
abbrev main_c_194 : Ref sig .tc := ⟨.hbm, 886, rfl⟩
abbrev main_v562 : Ref sig .tc := ⟨.hbm, 887, rfl⟩
abbrev main_v563 : Ref sig .tc := ⟨.hbm, 888, rfl⟩
abbrev main_c_195 : Ref sig .tc := ⟨.hbm, 889, rfl⟩
abbrev main_v564 : Ref sig .tc := ⟨.hbm, 890, rfl⟩
abbrev main_v565 : Ref sig .tc := ⟨.hbm, 891, rfl⟩
abbrev main_v566 : Ref sig .tc := ⟨.hbm, 892, rfl⟩
abbrev main_c_196 : Ref sig .tc := ⟨.hbm, 893, rfl⟩
abbrev main_v567 : Ref sig .tc := ⟨.hbm, 894, rfl⟩
abbrev main_v568 : Ref sig .tc := ⟨.hbm, 895, rfl⟩
abbrev main_c_197 : Ref sig .tc := ⟨.hbm, 896, rfl⟩
abbrev main_v569 : Ref sig .tc := ⟨.hbm, 897, rfl⟩
abbrev main_v570 : Ref sig .tc := ⟨.hbm, 898, rfl⟩
abbrev main_v571 : Ref sig .tc := ⟨.hbm, 899, rfl⟩
abbrev main_v572 : Ref sig .tc := ⟨.hbm, 900, rfl⟩
abbrev main_v573 : Ref sig .tc := ⟨.hbm, 901, rfl⟩
abbrev main_v574 : Ref sig .tc := ⟨.hbm, 902, rfl⟩
abbrev main_v575 : Ref sig .tc := ⟨.hbm, 903, rfl⟩
abbrev main_c_198 : Ref sig .tc := ⟨.hbm, 904, rfl⟩
abbrev main_v576 : Ref sig .tc := ⟨.hbm, 905, rfl⟩
abbrev main_v577 : Ref sig .tc := ⟨.hbm, 906, rfl⟩
abbrev main_c_199 : Ref sig .tc := ⟨.hbm, 907, rfl⟩
abbrev main_v578 : Ref sig .tc := ⟨.hbm, 908, rfl⟩
abbrev main_v579 : Ref sig .tc := ⟨.hbm, 909, rfl⟩
abbrev main_v580 : Ref sig .tc := ⟨.hbm, 910, rfl⟩
abbrev main_c_200 : Ref sig .tc := ⟨.hbm, 911, rfl⟩
abbrev main_v581 : Ref sig .tc := ⟨.hbm, 912, rfl⟩
abbrev main_v582 : Ref sig .tc := ⟨.hbm, 913, rfl⟩
abbrev main_c_201 : Ref sig .tc := ⟨.hbm, 914, rfl⟩
abbrev main_v583 : Ref sig .tc := ⟨.hbm, 915, rfl⟩
abbrev main_v584 : Ref sig .tc := ⟨.hbm, 916, rfl⟩
abbrev main_v585 : Ref sig .tc := ⟨.hbm, 917, rfl⟩
abbrev main_v586 : Ref sig .tc := ⟨.hbm, 918, rfl⟩
abbrev main_v587 : Ref sig .tc := ⟨.hbm, 919, rfl⟩
abbrev main_v588 : Ref sig .tc := ⟨.hbm, 920, rfl⟩
abbrev main_v589 : Ref sig .tc := ⟨.hbm, 921, rfl⟩
abbrev main_c_202 : Ref sig .tc := ⟨.hbm, 922, rfl⟩
abbrev main_v590 : Ref sig .tc := ⟨.hbm, 923, rfl⟩
abbrev main_v591 : Ref sig .tc := ⟨.hbm, 924, rfl⟩
abbrev main_c_203 : Ref sig .tc := ⟨.hbm, 925, rfl⟩
abbrev main_v592 : Ref sig .tc := ⟨.hbm, 926, rfl⟩
abbrev main_v593 : Ref sig .tc := ⟨.hbm, 927, rfl⟩
abbrev main_v594 : Ref sig .tc := ⟨.hbm, 928, rfl⟩
abbrev main_c_204 : Ref sig .tc := ⟨.hbm, 929, rfl⟩
abbrev main_v595 : Ref sig .tc := ⟨.hbm, 930, rfl⟩
abbrev main_v596 : Ref sig .tc := ⟨.hbm, 931, rfl⟩
abbrev main_c_205 : Ref sig .tc := ⟨.hbm, 932, rfl⟩
abbrev main_v597 : Ref sig .tc := ⟨.hbm, 933, rfl⟩
abbrev main_v598 : Ref sig .tc := ⟨.hbm, 934, rfl⟩
abbrev main_v599 : Ref sig .tc := ⟨.hbm, 935, rfl⟩
abbrev main_v600 : Ref sig .tc := ⟨.hbm, 936, rfl⟩
abbrev main_v601 : Ref sig .tc := ⟨.hbm, 937, rfl⟩
abbrev main_v602 : Ref sig .tc := ⟨.hbm, 938, rfl⟩
abbrev main_v603 : Ref sig .tc := ⟨.hbm, 939, rfl⟩
abbrev main_c_206 : Ref sig .tc := ⟨.hbm, 940, rfl⟩
abbrev main_v604 : Ref sig .tc := ⟨.hbm, 941, rfl⟩
abbrev main_v605 : Ref sig .tc := ⟨.hbm, 942, rfl⟩
abbrev main_c_207 : Ref sig .tc := ⟨.hbm, 943, rfl⟩
abbrev main_v606 : Ref sig .tc := ⟨.hbm, 944, rfl⟩
abbrev main_v607 : Ref sig .tc := ⟨.hbm, 945, rfl⟩
abbrev main_v608 : Ref sig .tc := ⟨.hbm, 946, rfl⟩
abbrev main_c_208 : Ref sig .tc := ⟨.hbm, 947, rfl⟩
abbrev main_v609 : Ref sig .tc := ⟨.hbm, 948, rfl⟩
abbrev main_v610 : Ref sig .tc := ⟨.hbm, 949, rfl⟩
abbrev main_c_209 : Ref sig .tc := ⟨.hbm, 950, rfl⟩
abbrev main_v611 : Ref sig .tc := ⟨.hbm, 951, rfl⟩
abbrev main_v612 : Ref sig .tc := ⟨.hbm, 952, rfl⟩
abbrev main_v613 : Ref sig .tc := ⟨.hbm, 953, rfl⟩
abbrev main_v614 : Ref sig .tc := ⟨.hbm, 954, rfl⟩
abbrev main_v615 : Ref sig .tc := ⟨.hbm, 955, rfl⟩
abbrev main_v616 : Ref sig .tc := ⟨.hbm, 956, rfl⟩
abbrev main_v617 : Ref sig .tc := ⟨.hbm, 957, rfl⟩
abbrev main_cst_210 : Ref sig .tc := ⟨.hbm, 958, rfl⟩
abbrev main_v618 : Ref sig .tc := ⟨.hbm, 959, rfl⟩
abbrev main_v619 : Ref sig .tc := ⟨.hbm, 960, rfl⟩
abbrev main_v620 : Ref sig .tc := ⟨.hbm, 961, rfl⟩
abbrev main_v621 : Ref sig .tc := ⟨.hbm, 962, rfl⟩
abbrev main_v622 : Ref sig .tc := ⟨.hbm, 963, rfl⟩
abbrev main_cst_211 : Ref sig .tc := ⟨.hbm, 964, rfl⟩
abbrev main_v623 : Ref sig .tc := ⟨.hbm, 965, rfl⟩
abbrev main_v624 : Ref sig .tc := ⟨.hbm, 966, rfl⟩
abbrev main_v625 : Ref sig .tc := ⟨.hbm, 967, rfl⟩
abbrev main_v626 : Ref sig .tc := ⟨.hbm, 968, rfl⟩
abbrev main_v627 : Ref sig .tc := ⟨.hbm, 969, rfl⟩
abbrev main_v628 : Ref sig .tc := ⟨.hbm, 970, rfl⟩
abbrev main_v629 : Ref sig .tc := ⟨.hbm, 971, rfl⟩
abbrev main_v630 : Ref sig .tc := ⟨.hbm, 972, rfl⟩
abbrev main_cst_212 : Ref sig .tc := ⟨.hbm, 973, rfl⟩
abbrev main_v631 : Ref sig .tc := ⟨.hbm, 974, rfl⟩
abbrev main_v632 : Ref sig .tc := ⟨.hbm, 975, rfl⟩
abbrev main_v633 : Ref sig .tc := ⟨.hbm, 976, rfl⟩
abbrev main_v634 : Ref sig .tc := ⟨.hbm, 977, rfl⟩
abbrev main_v635 : Ref sig .tc := ⟨.hbm, 978, rfl⟩
abbrev main_v636 : Ref sig .tc := ⟨.hbm, 979, rfl⟩
abbrev main_cst_213 : Ref sig .tc := ⟨.hbm, 980, rfl⟩
abbrev main_v637 : Ref sig .tc := ⟨.hbm, 981, rfl⟩
abbrev main_v638 : Ref sig .tc := ⟨.hbm, 982, rfl⟩
abbrev main_v639 : Ref sig .tc := ⟨.hbm, 983, rfl⟩
abbrev main_v640 : Ref sig .tc := ⟨.hbm, 984, rfl⟩
abbrev main_v641 : Ref sig .tc := ⟨.hbm, 985, rfl⟩
abbrev main_v642 : Ref sig .tc := ⟨.hbm, 986, rfl⟩
abbrev main_v643 : Ref sig .tc := ⟨.hbm, 987, rfl⟩
abbrev main_v644 : Ref sig .tc := ⟨.hbm, 988, rfl⟩
abbrev main_v645 : Ref sig .tc := ⟨.hbm, 989, rfl⟩
abbrev main_v646 : Ref sig .tc := ⟨.hbm, 990, rfl⟩
abbrev main_v647 : Ref sig .tc := ⟨.hbm, 991, rfl⟩
abbrev main_v648 : Ref sig .tc := ⟨.hbm, 992, rfl⟩
abbrev main_v649 : Ref sig .tc := ⟨.hbm, 993, rfl⟩
abbrev main_v650 : Ref sig .tc := ⟨.hbm, 994, rfl⟩
abbrev main_v651 : Ref sig .tc := ⟨.hbm, 995, rfl⟩
abbrev main_v652 : Ref sig .tc := ⟨.hbm, 996, rfl⟩
abbrev main_v653 : Ref sig .tc := ⟨.hbm, 997, rfl⟩
abbrev main_c_214 : Ref sig .tc := ⟨.hbm, 998, rfl⟩
abbrev main_v654 : Ref sig .tc := ⟨.hbm, 999, rfl⟩
abbrev main_v655 : Ref sig .tc := ⟨.hbm, 1000, rfl⟩
abbrev main_c_215 : Ref sig .tc := ⟨.hbm, 1001, rfl⟩
abbrev main_v656 : Ref sig .tc := ⟨.hbm, 1002, rfl⟩
abbrev main_v657 : Ref sig .tc := ⟨.hbm, 1003, rfl⟩
abbrev main_v658 : Ref sig .tc := ⟨.hbm, 1004, rfl⟩
abbrev main_v659 : Ref sig .tc := ⟨.hbm, 1005, rfl⟩
abbrev main_v660 : Ref sig .tc := ⟨.hbm, 1006, rfl⟩
abbrev main_v661 : Ref sig .tc := ⟨.hbm, 1007, rfl⟩
abbrev main_v662 : Ref sig .tc := ⟨.hbm, 1008, rfl⟩
abbrev main_cst_216 : Ref sig .tc := ⟨.hbm, 1009, rfl⟩
abbrev main_v663 : Ref sig .tc := ⟨.hbm, 1010, rfl⟩
abbrev main_v664 : Ref sig .tc := ⟨.hbm, 1011, rfl⟩
abbrev main_cst_217 : Ref sig .tc := ⟨.hbm, 1012, rfl⟩
abbrev main_v665 : Ref sig .tc := ⟨.hbm, 1013, rfl⟩
abbrev main_v666 : Ref sig .tc := ⟨.hbm, 1014, rfl⟩
abbrev main_cst_218 : Ref sig .tc := ⟨.hbm, 1015, rfl⟩
abbrev main_v667 : Ref sig .tc := ⟨.hbm, 1016, rfl⟩
abbrev main_v668 : Ref sig .tc := ⟨.hbm, 1017, rfl⟩
abbrev main_v669 : Ref sig .tc := ⟨.hbm, 1018, rfl⟩
abbrev main_v670 : Ref sig .tc := ⟨.hbm, 1019, rfl⟩
abbrev main_cst_219 : Ref sig .tc := ⟨.hbm, 1020, rfl⟩
abbrev main_v671 : Ref sig .tc := ⟨.hbm, 1021, rfl⟩
abbrev main_v672 : Ref sig .tc := ⟨.hbm, 1022, rfl⟩
abbrev main_cst_220 : Ref sig .tc := ⟨.hbm, 1023, rfl⟩
abbrev main_v673 : Ref sig .tc := ⟨.hbm, 1024, rfl⟩
abbrev main_v674 : Ref sig .tc := ⟨.hbm, 1025, rfl⟩
abbrev main_cst_221 : Ref sig .tc := ⟨.hbm, 1026, rfl⟩
abbrev main_v675 : Ref sig .tc := ⟨.hbm, 1027, rfl⟩
abbrev main_v676 : Ref sig .tc := ⟨.hbm, 1028, rfl⟩
abbrev main_v677 : Ref sig .tc := ⟨.hbm, 1029, rfl⟩
abbrev main_v678 : Ref sig .tc := ⟨.hbm, 1030, rfl⟩
abbrev main_v679 : Ref sig .tc := ⟨.hbm, 1031, rfl⟩
abbrev main_v680 : Ref sig .tc := ⟨.hbm, 1032, rfl⟩
abbrev main_v681 : Ref sig .tc := ⟨.hbm, 1033, rfl⟩
abbrev main_c_222 : Ref sig .tc := ⟨.hbm, 1034, rfl⟩
abbrev main_c_223 : Ref sig .tc := ⟨.hbm, 1035, rfl⟩
abbrev main_call20_v0 : Ref sig .tc := ⟨.hbm, 1036, rfl⟩
abbrev main_call20_v1 : Ref sig .tc := ⟨.hbm, 1037, rfl⟩
abbrev main_call20_v2 : Ref sig .tc := ⟨.hbm, 1038, rfl⟩
abbrev main_call20_v3 : Ref sig .tc := ⟨.hbm, 1039, rfl⟩
abbrev main_call20_v4 : Ref sig .tc := ⟨.hbm, 1040, rfl⟩
abbrev main_v682 : Ref sig .tc := ⟨.hbm, 1041, rfl⟩
abbrev main_c_224 : Ref sig .tc := ⟨.hbm, 1042, rfl⟩
abbrev main_v683 : Ref sig .tc := ⟨.hbm, 1043, rfl⟩
abbrev main_v684 : Ref sig .tc := ⟨.hbm, 1044, rfl⟩
abbrev main_c_225 : Ref sig .tc := ⟨.hbm, 1045, rfl⟩
abbrev main_c_226 : Ref sig .tc := ⟨.hbm, 1046, rfl⟩
abbrev main_call21_v0 : Ref sig .tc := ⟨.hbm, 1047, rfl⟩
abbrev main_call21_v1 : Ref sig .tc := ⟨.hbm, 1048, rfl⟩
abbrev main_call21_v2 : Ref sig .tc := ⟨.hbm, 1049, rfl⟩
abbrev main_call21_v3 : Ref sig .tc := ⟨.hbm, 1050, rfl⟩
abbrev main_call21_v4 : Ref sig .tc := ⟨.hbm, 1051, rfl⟩
abbrev main_v685 : Ref sig .tc := ⟨.hbm, 1052, rfl⟩
abbrev main_v686 : Ref sig .tc := ⟨.hbm, 1053, rfl⟩
abbrev main_c_227 : Ref sig .tc := ⟨.hbm, 1054, rfl⟩
abbrev main_c_228 : Ref sig .tc := ⟨.hbm, 1055, rfl⟩
abbrev main_call22_v0 : Ref sig .tc := ⟨.hbm, 1056, rfl⟩
abbrev main_call22_v1 : Ref sig .tc := ⟨.hbm, 1057, rfl⟩
abbrev main_call22_v2 : Ref sig .tc := ⟨.hbm, 1058, rfl⟩
abbrev main_call22_v3 : Ref sig .tc := ⟨.hbm, 1059, rfl⟩
abbrev main_call22_v4 : Ref sig .tc := ⟨.hbm, 1060, rfl⟩
abbrev main_v687 : Ref sig .tc := ⟨.hbm, 1061, rfl⟩
abbrev main_c_229 : Ref sig .tc := ⟨.hbm, 1062, rfl⟩
abbrev main_v688 : Ref sig .tc := ⟨.hbm, 1063, rfl⟩
abbrev main_v689 : Ref sig .tc := ⟨.hbm, 1064, rfl⟩
abbrev main_c_230 : Ref sig .tc := ⟨.hbm, 1065, rfl⟩
abbrev main_c_231 : Ref sig .tc := ⟨.hbm, 1066, rfl⟩
abbrev main_call23_v0 : Ref sig .tc := ⟨.hbm, 1067, rfl⟩
abbrev main_call23_v1 : Ref sig .tc := ⟨.hbm, 1068, rfl⟩
abbrev main_call23_v2 : Ref sig .tc := ⟨.hbm, 1069, rfl⟩
abbrev main_call23_v3 : Ref sig .tc := ⟨.hbm, 1070, rfl⟩
abbrev main_call23_v4 : Ref sig .tc := ⟨.hbm, 1071, rfl⟩
abbrev main_v690 : Ref sig .tc := ⟨.hbm, 1072, rfl⟩
abbrev main_c_232 : Ref sig .tc := ⟨.hbm, 1073, rfl⟩
abbrev main_v691 : Ref sig .tc := ⟨.hbm, 1074, rfl⟩
abbrev main_v692 : Ref sig .tc := ⟨.hbm, 1075, rfl⟩
abbrev main_c_233 : Ref sig .tc := ⟨.hbm, 1076, rfl⟩
abbrev main_v693 : Ref sig .tc := ⟨.hbm, 1077, rfl⟩
abbrev main_v694 : Ref sig .tc := ⟨.hbm, 1078, rfl⟩
abbrev main_v695 : Ref sig .tc := ⟨.hbm, 1079, rfl⟩
abbrev main_c_234 : Ref sig .tc := ⟨.hbm, 1080, rfl⟩
abbrev main_v696 : Ref sig .tc := ⟨.hbm, 1081, rfl⟩
abbrev main_v697 : Ref sig .tc := ⟨.hbm, 1082, rfl⟩
abbrev main_c_235 : Ref sig .tc := ⟨.hbm, 1083, rfl⟩
abbrev main_v698 : Ref sig .tc := ⟨.hbm, 1084, rfl⟩
abbrev main_v699 : Ref sig .tc := ⟨.hbm, 1085, rfl⟩
abbrev main_v700 : Ref sig .tc := ⟨.hbm, 1086, rfl⟩
abbrev main_v701 : Ref sig .tc := ⟨.hbm, 1087, rfl⟩
abbrev main_v702 : Ref sig .tc := ⟨.hbm, 1088, rfl⟩
abbrev main_v703 : Ref sig .tc := ⟨.hbm, 1089, rfl⟩
abbrev main_v704 : Ref sig .tc := ⟨.hbm, 1090, rfl⟩
abbrev main_c_236 : Ref sig .tc := ⟨.hbm, 1091, rfl⟩
abbrev main_v705 : Ref sig .tc := ⟨.hbm, 1092, rfl⟩
abbrev main_v706 : Ref sig .tc := ⟨.hbm, 1093, rfl⟩
abbrev main_c_237 : Ref sig .tc := ⟨.hbm, 1094, rfl⟩
abbrev main_v707 : Ref sig .tc := ⟨.hbm, 1095, rfl⟩
abbrev main_v708 : Ref sig .tc := ⟨.hbm, 1096, rfl⟩
abbrev main_v709 : Ref sig .tc := ⟨.hbm, 1097, rfl⟩
abbrev main_c_238 : Ref sig .tc := ⟨.hbm, 1098, rfl⟩
abbrev main_v710 : Ref sig .tc := ⟨.hbm, 1099, rfl⟩
abbrev main_v711 : Ref sig .tc := ⟨.hbm, 1100, rfl⟩
abbrev main_c_239 : Ref sig .tc := ⟨.hbm, 1101, rfl⟩
abbrev main_v712 : Ref sig .tc := ⟨.hbm, 1102, rfl⟩
abbrev main_v713 : Ref sig .tc := ⟨.hbm, 1103, rfl⟩
abbrev main_v714 : Ref sig .tc := ⟨.hbm, 1104, rfl⟩
abbrev main_v715 : Ref sig .tc := ⟨.hbm, 1105, rfl⟩
abbrev main_v716 : Ref sig .tc := ⟨.hbm, 1106, rfl⟩
abbrev main_v717 : Ref sig .tc := ⟨.hbm, 1107, rfl⟩
abbrev main_v718 : Ref sig .tc := ⟨.hbm, 1108, rfl⟩
abbrev main_c_240 : Ref sig .tc := ⟨.hbm, 1109, rfl⟩
abbrev main_v719 : Ref sig .tc := ⟨.hbm, 1110, rfl⟩
abbrev main_v720 : Ref sig .tc := ⟨.hbm, 1111, rfl⟩
abbrev main_c_241 : Ref sig .tc := ⟨.hbm, 1112, rfl⟩
abbrev main_v721 : Ref sig .tc := ⟨.hbm, 1113, rfl⟩
abbrev main_v722 : Ref sig .tc := ⟨.hbm, 1114, rfl⟩
abbrev main_v723 : Ref sig .tc := ⟨.hbm, 1115, rfl⟩
abbrev main_c_242 : Ref sig .tc := ⟨.hbm, 1116, rfl⟩
abbrev main_v724 : Ref sig .tc := ⟨.hbm, 1117, rfl⟩
abbrev main_v725 : Ref sig .tc := ⟨.hbm, 1118, rfl⟩
abbrev main_c_243 : Ref sig .tc := ⟨.hbm, 1119, rfl⟩
abbrev main_v726 : Ref sig .tc := ⟨.hbm, 1120, rfl⟩
abbrev main_v727 : Ref sig .tc := ⟨.hbm, 1121, rfl⟩
abbrev main_v728 : Ref sig .tc := ⟨.hbm, 1122, rfl⟩
abbrev main_v729 : Ref sig .tc := ⟨.hbm, 1123, rfl⟩
abbrev main_v730 : Ref sig .tc := ⟨.hbm, 1124, rfl⟩
abbrev main_v731 : Ref sig .tc := ⟨.hbm, 1125, rfl⟩
abbrev main_v732 : Ref sig .tc := ⟨.hbm, 1126, rfl⟩
abbrev main_c_244 : Ref sig .tc := ⟨.hbm, 1127, rfl⟩
abbrev main_v733 : Ref sig .tc := ⟨.hbm, 1128, rfl⟩
abbrev main_v734 : Ref sig .tc := ⟨.hbm, 1129, rfl⟩
abbrev main_c_245 : Ref sig .tc := ⟨.hbm, 1130, rfl⟩
abbrev main_v735 : Ref sig .tc := ⟨.hbm, 1131, rfl⟩
abbrev main_v736 : Ref sig .tc := ⟨.hbm, 1132, rfl⟩
abbrev main_v737 : Ref sig .tc := ⟨.hbm, 1133, rfl⟩
abbrev main_c_246 : Ref sig .tc := ⟨.hbm, 1134, rfl⟩
abbrev main_v738 : Ref sig .tc := ⟨.hbm, 1135, rfl⟩
abbrev main_v739 : Ref sig .tc := ⟨.hbm, 1136, rfl⟩
abbrev main_c_247 : Ref sig .tc := ⟨.hbm, 1137, rfl⟩
abbrev main_v740 : Ref sig .tc := ⟨.hbm, 1138, rfl⟩
abbrev main_v741 : Ref sig .tc := ⟨.hbm, 1139, rfl⟩
abbrev main_v742 : Ref sig .tc := ⟨.hbm, 1140, rfl⟩
abbrev main_v743 : Ref sig .tc := ⟨.hbm, 1141, rfl⟩
abbrev main_v744 : Ref sig .tc := ⟨.hbm, 1142, rfl⟩
abbrev main_v745 : Ref sig .tc := ⟨.hbm, 1143, rfl⟩
abbrev main_v746 : Ref sig .tc := ⟨.hbm, 1144, rfl⟩
abbrev main_cst_248 : Ref sig .tc := ⟨.hbm, 1145, rfl⟩
abbrev main_v747 : Ref sig .tc := ⟨.hbm, 1146, rfl⟩
abbrev main_v748 : Ref sig .tc := ⟨.hbm, 1147, rfl⟩
abbrev main_v749 : Ref sig .tc := ⟨.hbm, 1148, rfl⟩
abbrev main_v750 : Ref sig .tc := ⟨.hbm, 1149, rfl⟩
abbrev main_v751 : Ref sig .tc := ⟨.hbm, 1150, rfl⟩
abbrev main_cst_249 : Ref sig .tc := ⟨.hbm, 1151, rfl⟩
abbrev main_v752 : Ref sig .tc := ⟨.hbm, 1152, rfl⟩
abbrev main_v753 : Ref sig .tc := ⟨.hbm, 1153, rfl⟩
abbrev main_v754 : Ref sig .tc := ⟨.hbm, 1154, rfl⟩
abbrev main_v755 : Ref sig .tc := ⟨.hbm, 1155, rfl⟩
abbrev main_v756 : Ref sig .tc := ⟨.hbm, 1156, rfl⟩
abbrev main_v757 : Ref sig .tc := ⟨.hbm, 1157, rfl⟩
abbrev main_v758 : Ref sig .tc := ⟨.hbm, 1158, rfl⟩
abbrev main_v759 : Ref sig .tc := ⟨.hbm, 1159, rfl⟩
abbrev main_cst_250 : Ref sig .tc := ⟨.hbm, 1160, rfl⟩
abbrev main_v760 : Ref sig .tc := ⟨.hbm, 1161, rfl⟩
abbrev main_v761 : Ref sig .tc := ⟨.hbm, 1162, rfl⟩
abbrev main_v762 : Ref sig .tc := ⟨.hbm, 1163, rfl⟩
abbrev main_v763 : Ref sig .tc := ⟨.hbm, 1164, rfl⟩
abbrev main_v764 : Ref sig .tc := ⟨.hbm, 1165, rfl⟩
abbrev main_v765 : Ref sig .tc := ⟨.hbm, 1166, rfl⟩
abbrev main_cst_251 : Ref sig .tc := ⟨.hbm, 1167, rfl⟩
abbrev main_v766 : Ref sig .tc := ⟨.hbm, 1168, rfl⟩
abbrev main_v767 : Ref sig .tc := ⟨.hbm, 1169, rfl⟩
abbrev main_v768 : Ref sig .tc := ⟨.hbm, 1170, rfl⟩
abbrev main_v769 : Ref sig .tc := ⟨.hbm, 1171, rfl⟩
abbrev main_v770 : Ref sig .tc := ⟨.hbm, 1172, rfl⟩
abbrev main_v771 : Ref sig .tc := ⟨.hbm, 1173, rfl⟩
abbrev main_v772 : Ref sig .tc := ⟨.hbm, 1174, rfl⟩
abbrev main_v773 : Ref sig .tc := ⟨.hbm, 1175, rfl⟩
abbrev main_v774 : Ref sig .tc := ⟨.hbm, 1176, rfl⟩
abbrev main_v775 : Ref sig .tc := ⟨.hbm, 1177, rfl⟩
abbrev main_v776 : Ref sig .tc := ⟨.hbm, 1178, rfl⟩
abbrev main_v777 : Ref sig .tc := ⟨.hbm, 1179, rfl⟩
abbrev main_v778 : Ref sig .tc := ⟨.hbm, 1180, rfl⟩
abbrev main_v779 : Ref sig .tc := ⟨.hbm, 1181, rfl⟩
abbrev main_v780 : Ref sig .tc := ⟨.hbm, 1182, rfl⟩
abbrev main_v781 : Ref sig .tc := ⟨.hbm, 1183, rfl⟩
abbrev main_v782 : Ref sig .tc := ⟨.hbm, 1184, rfl⟩
abbrev main_c_252 : Ref sig .tc := ⟨.hbm, 1185, rfl⟩
abbrev main_v783 : Ref sig .tc := ⟨.hbm, 1186, rfl⟩
abbrev main_v784 : Ref sig .tc := ⟨.hbm, 1187, rfl⟩
abbrev main_c_253 : Ref sig .tc := ⟨.hbm, 1188, rfl⟩
abbrev main_v785 : Ref sig .tc := ⟨.hbm, 1189, rfl⟩
abbrev main_v786 : Ref sig .tc := ⟨.hbm, 1190, rfl⟩
abbrev main_v787 : Ref sig .tc := ⟨.hbm, 1191, rfl⟩
abbrev main_v788 : Ref sig .tc := ⟨.hbm, 1192, rfl⟩
abbrev main_v789 : Ref sig .tc := ⟨.hbm, 1193, rfl⟩
abbrev main_v790 : Ref sig .tc := ⟨.hbm, 1194, rfl⟩
abbrev main_v791 : Ref sig .tc := ⟨.hbm, 1195, rfl⟩
abbrev main_cst_254 : Ref sig .tc := ⟨.hbm, 1196, rfl⟩
abbrev main_v792 : Ref sig .tc := ⟨.hbm, 1197, rfl⟩
abbrev main_v793 : Ref sig .tc := ⟨.hbm, 1198, rfl⟩
abbrev main_cst_255 : Ref sig .tc := ⟨.hbm, 1199, rfl⟩
abbrev main_v794 : Ref sig .tc := ⟨.hbm, 1200, rfl⟩
abbrev main_v795 : Ref sig .tc := ⟨.hbm, 1201, rfl⟩
abbrev main_cst_256 : Ref sig .tc := ⟨.hbm, 1202, rfl⟩
abbrev main_v796 : Ref sig .tc := ⟨.hbm, 1203, rfl⟩
abbrev main_v797 : Ref sig .tc := ⟨.hbm, 1204, rfl⟩
abbrev main_v798 : Ref sig .tc := ⟨.hbm, 1205, rfl⟩
abbrev main_v799 : Ref sig .tc := ⟨.hbm, 1206, rfl⟩
abbrev main_cst_257 : Ref sig .tc := ⟨.hbm, 1207, rfl⟩
abbrev main_v800 : Ref sig .tc := ⟨.hbm, 1208, rfl⟩
abbrev main_v801 : Ref sig .tc := ⟨.hbm, 1209, rfl⟩
abbrev main_cst_258 : Ref sig .tc := ⟨.hbm, 1210, rfl⟩
abbrev main_v802 : Ref sig .tc := ⟨.hbm, 1211, rfl⟩
abbrev main_v803 : Ref sig .tc := ⟨.hbm, 1212, rfl⟩
abbrev main_cst_259 : Ref sig .tc := ⟨.hbm, 1213, rfl⟩
abbrev main_v804 : Ref sig .tc := ⟨.hbm, 1214, rfl⟩
abbrev main_v805 : Ref sig .tc := ⟨.hbm, 1215, rfl⟩
abbrev main_v806 : Ref sig .tc := ⟨.hbm, 1216, rfl⟩
abbrev main_v807 : Ref sig .tc := ⟨.hbm, 1217, rfl⟩
abbrev main_v808 : Ref sig .tc := ⟨.hbm, 1218, rfl⟩
abbrev main_v809 : Ref sig .tc := ⟨.hbm, 1219, rfl⟩
abbrev main_v810 : Ref sig .tc := ⟨.hbm, 1220, rfl⟩
abbrev main_c_260 : Ref sig .tc := ⟨.hbm, 1221, rfl⟩
abbrev main_c_261 : Ref sig .tc := ⟨.hbm, 1222, rfl⟩
abbrev main_call24_v0 : Ref sig .tc := ⟨.hbm, 1223, rfl⟩
abbrev main_call24_v1 : Ref sig .tc := ⟨.hbm, 1224, rfl⟩
abbrev main_call24_v2 : Ref sig .tc := ⟨.hbm, 1225, rfl⟩
abbrev main_call24_v3 : Ref sig .tc := ⟨.hbm, 1226, rfl⟩
abbrev main_call24_v4 : Ref sig .tc := ⟨.hbm, 1227, rfl⟩
abbrev main_v811 : Ref sig .tc := ⟨.hbm, 1228, rfl⟩
abbrev main_c_262 : Ref sig .tc := ⟨.hbm, 1229, rfl⟩
abbrev main_v812 : Ref sig .tc := ⟨.hbm, 1230, rfl⟩
abbrev main_v813 : Ref sig .tc := ⟨.hbm, 1231, rfl⟩
abbrev main_c_263 : Ref sig .tc := ⟨.hbm, 1232, rfl⟩
abbrev main_c_264 : Ref sig .tc := ⟨.hbm, 1233, rfl⟩
abbrev main_call25_v0 : Ref sig .tc := ⟨.hbm, 1234, rfl⟩
abbrev main_call25_v1 : Ref sig .tc := ⟨.hbm, 1235, rfl⟩
abbrev main_call25_v2 : Ref sig .tc := ⟨.hbm, 1236, rfl⟩
abbrev main_call25_v3 : Ref sig .tc := ⟨.hbm, 1237, rfl⟩
abbrev main_call25_v4 : Ref sig .tc := ⟨.hbm, 1238, rfl⟩
abbrev main_v814 : Ref sig .tc := ⟨.hbm, 1239, rfl⟩
abbrev main_v815 : Ref sig .tc := ⟨.hbm, 1240, rfl⟩
abbrev main_c_265 : Ref sig .tc := ⟨.hbm, 1241, rfl⟩
abbrev main_c_266 : Ref sig .tc := ⟨.hbm, 1242, rfl⟩
abbrev main_call26_v0 : Ref sig .tc := ⟨.hbm, 1243, rfl⟩
abbrev main_call26_v1 : Ref sig .tc := ⟨.hbm, 1244, rfl⟩
abbrev main_call26_v2 : Ref sig .tc := ⟨.hbm, 1245, rfl⟩
abbrev main_call26_v3 : Ref sig .tc := ⟨.hbm, 1246, rfl⟩
abbrev main_call26_v4 : Ref sig .tc := ⟨.hbm, 1247, rfl⟩
abbrev main_v816 : Ref sig .tc := ⟨.hbm, 1248, rfl⟩
abbrev main_c_267 : Ref sig .tc := ⟨.hbm, 1249, rfl⟩
abbrev main_v817 : Ref sig .tc := ⟨.hbm, 1250, rfl⟩
abbrev main_v818 : Ref sig .tc := ⟨.hbm, 1251, rfl⟩
abbrev main_c_268 : Ref sig .tc := ⟨.hbm, 1252, rfl⟩
abbrev main_c_269 : Ref sig .tc := ⟨.hbm, 1253, rfl⟩
abbrev main_call27_v0 : Ref sig .tc := ⟨.hbm, 1254, rfl⟩
abbrev main_call27_v1 : Ref sig .tc := ⟨.hbm, 1255, rfl⟩
abbrev main_call27_v2 : Ref sig .tc := ⟨.hbm, 1256, rfl⟩
abbrev main_call27_v3 : Ref sig .tc := ⟨.hbm, 1257, rfl⟩
abbrev main_call27_v4 : Ref sig .tc := ⟨.hbm, 1258, rfl⟩
abbrev main_v819 : Ref sig .tc := ⟨.hbm, 1259, rfl⟩
abbrev main_c_270 : Ref sig .tc := ⟨.hbm, 1260, rfl⟩
abbrev main_v820 : Ref sig .tc := ⟨.hbm, 1261, rfl⟩
abbrev main_v821 : Ref sig .tc := ⟨.hbm, 1262, rfl⟩
abbrev main_c_271 : Ref sig .tc := ⟨.hbm, 1263, rfl⟩
abbrev main_v822 : Ref sig .tc := ⟨.hbm, 1264, rfl⟩
abbrev main_v823 : Ref sig .tc := ⟨.hbm, 1265, rfl⟩
abbrev main_v824 : Ref sig .tc := ⟨.hbm, 1266, rfl⟩
abbrev main_c_272 : Ref sig .tc := ⟨.hbm, 1267, rfl⟩
abbrev main_v825 : Ref sig .tc := ⟨.hbm, 1268, rfl⟩
abbrev main_v826 : Ref sig .tc := ⟨.hbm, 1269, rfl⟩
abbrev main_c_273 : Ref sig .tc := ⟨.hbm, 1270, rfl⟩
abbrev main_v827 : Ref sig .tc := ⟨.hbm, 1271, rfl⟩
abbrev main_v828 : Ref sig .tc := ⟨.hbm, 1272, rfl⟩
abbrev main_v829 : Ref sig .tc := ⟨.hbm, 1273, rfl⟩
abbrev main_v830 : Ref sig .tc := ⟨.hbm, 1274, rfl⟩
abbrev main_v831 : Ref sig .tc := ⟨.hbm, 1275, rfl⟩
abbrev main_v832 : Ref sig .tc := ⟨.hbm, 1276, rfl⟩
abbrev main_v833 : Ref sig .tc := ⟨.hbm, 1277, rfl⟩
abbrev main_c_274 : Ref sig .tc := ⟨.hbm, 1278, rfl⟩
abbrev main_v834 : Ref sig .tc := ⟨.hbm, 1279, rfl⟩
abbrev main_v835 : Ref sig .tc := ⟨.hbm, 1280, rfl⟩
abbrev main_c_275 : Ref sig .tc := ⟨.hbm, 1281, rfl⟩
abbrev main_v836 : Ref sig .tc := ⟨.hbm, 1282, rfl⟩
abbrev main_v837 : Ref sig .tc := ⟨.hbm, 1283, rfl⟩
abbrev main_v838 : Ref sig .tc := ⟨.hbm, 1284, rfl⟩
abbrev main_c_276 : Ref sig .tc := ⟨.hbm, 1285, rfl⟩
abbrev main_v839 : Ref sig .tc := ⟨.hbm, 1286, rfl⟩
abbrev main_v840 : Ref sig .tc := ⟨.hbm, 1287, rfl⟩
abbrev main_c_277 : Ref sig .tc := ⟨.hbm, 1288, rfl⟩
abbrev main_v841 : Ref sig .tc := ⟨.hbm, 1289, rfl⟩
abbrev main_v842 : Ref sig .tc := ⟨.hbm, 1290, rfl⟩
abbrev main_v843 : Ref sig .tc := ⟨.hbm, 1291, rfl⟩
abbrev main_v844 : Ref sig .tc := ⟨.hbm, 1292, rfl⟩
abbrev main_v845 : Ref sig .tc := ⟨.hbm, 1293, rfl⟩
abbrev main_v846 : Ref sig .tc := ⟨.hbm, 1294, rfl⟩
abbrev main_v847 : Ref sig .tc := ⟨.hbm, 1295, rfl⟩
abbrev main_c_278 : Ref sig .tc := ⟨.hbm, 1296, rfl⟩
abbrev main_v848 : Ref sig .tc := ⟨.hbm, 1297, rfl⟩
abbrev main_v849 : Ref sig .tc := ⟨.hbm, 1298, rfl⟩
abbrev main_c_279 : Ref sig .tc := ⟨.hbm, 1299, rfl⟩
abbrev main_v850 : Ref sig .tc := ⟨.hbm, 1300, rfl⟩
abbrev main_v851 : Ref sig .tc := ⟨.hbm, 1301, rfl⟩
abbrev main_v852 : Ref sig .tc := ⟨.hbm, 1302, rfl⟩
abbrev main_c_280 : Ref sig .tc := ⟨.hbm, 1303, rfl⟩
abbrev main_v853 : Ref sig .tc := ⟨.hbm, 1304, rfl⟩
abbrev main_v854 : Ref sig .tc := ⟨.hbm, 1305, rfl⟩
abbrev main_c_281 : Ref sig .tc := ⟨.hbm, 1306, rfl⟩
abbrev main_v855 : Ref sig .tc := ⟨.hbm, 1307, rfl⟩
abbrev main_v856 : Ref sig .tc := ⟨.hbm, 1308, rfl⟩
abbrev main_v857 : Ref sig .tc := ⟨.hbm, 1309, rfl⟩
abbrev main_v858 : Ref sig .tc := ⟨.hbm, 1310, rfl⟩
abbrev main_v859 : Ref sig .tc := ⟨.hbm, 1311, rfl⟩
abbrev main_v860 : Ref sig .tc := ⟨.hbm, 1312, rfl⟩
abbrev main_v861 : Ref sig .tc := ⟨.hbm, 1313, rfl⟩
abbrev main_c_282 : Ref sig .tc := ⟨.hbm, 1314, rfl⟩
abbrev main_v862 : Ref sig .tc := ⟨.hbm, 1315, rfl⟩
abbrev main_v863 : Ref sig .tc := ⟨.hbm, 1316, rfl⟩
abbrev main_c_283 : Ref sig .tc := ⟨.hbm, 1317, rfl⟩
abbrev main_v864 : Ref sig .tc := ⟨.hbm, 1318, rfl⟩
abbrev main_v865 : Ref sig .tc := ⟨.hbm, 1319, rfl⟩
abbrev main_v866 : Ref sig .tc := ⟨.hbm, 1320, rfl⟩
abbrev main_c_284 : Ref sig .tc := ⟨.hbm, 1321, rfl⟩
abbrev main_v867 : Ref sig .tc := ⟨.hbm, 1322, rfl⟩
abbrev main_v868 : Ref sig .tc := ⟨.hbm, 1323, rfl⟩
abbrev main_c_285 : Ref sig .tc := ⟨.hbm, 1324, rfl⟩
abbrev main_v869 : Ref sig .tc := ⟨.hbm, 1325, rfl⟩
abbrev main_v870 : Ref sig .tc := ⟨.hbm, 1326, rfl⟩
abbrev main_v871 : Ref sig .tc := ⟨.hbm, 1327, rfl⟩
abbrev main_v872 : Ref sig .tc := ⟨.hbm, 1328, rfl⟩
abbrev main_v873 : Ref sig .tc := ⟨.hbm, 1329, rfl⟩
abbrev main_v874 : Ref sig .tc := ⟨.hbm, 1330, rfl⟩
abbrev main_v875 : Ref sig .tc := ⟨.hbm, 1331, rfl⟩
abbrev main_cst_286 : Ref sig .tc := ⟨.hbm, 1332, rfl⟩
abbrev main_v876 : Ref sig .tc := ⟨.hbm, 1333, rfl⟩
abbrev main_v877 : Ref sig .tc := ⟨.hbm, 1334, rfl⟩
abbrev main_v878 : Ref sig .tc := ⟨.hbm, 1335, rfl⟩
abbrev main_v879 : Ref sig .tc := ⟨.hbm, 1336, rfl⟩
abbrev main_v880 : Ref sig .tc := ⟨.hbm, 1337, rfl⟩
abbrev main_cst_287 : Ref sig .tc := ⟨.hbm, 1338, rfl⟩
abbrev main_v881 : Ref sig .tc := ⟨.hbm, 1339, rfl⟩
abbrev main_v882 : Ref sig .tc := ⟨.hbm, 1340, rfl⟩
abbrev main_v883 : Ref sig .tc := ⟨.hbm, 1341, rfl⟩
abbrev main_v884 : Ref sig .tc := ⟨.hbm, 1342, rfl⟩
abbrev main_v885 : Ref sig .tc := ⟨.hbm, 1343, rfl⟩
abbrev main_v886 : Ref sig .tc := ⟨.hbm, 1344, rfl⟩
abbrev main_v887 : Ref sig .tc := ⟨.hbm, 1345, rfl⟩
abbrev main_v888 : Ref sig .tc := ⟨.hbm, 1346, rfl⟩
abbrev main_cst_288 : Ref sig .tc := ⟨.hbm, 1347, rfl⟩
abbrev main_v889 : Ref sig .tc := ⟨.hbm, 1348, rfl⟩
abbrev main_v890 : Ref sig .tc := ⟨.hbm, 1349, rfl⟩
abbrev main_v891 : Ref sig .tc := ⟨.hbm, 1350, rfl⟩
abbrev main_v892 : Ref sig .tc := ⟨.hbm, 1351, rfl⟩
abbrev main_v893 : Ref sig .tc := ⟨.hbm, 1352, rfl⟩
abbrev main_v894 : Ref sig .tc := ⟨.hbm, 1353, rfl⟩
abbrev main_cst_289 : Ref sig .tc := ⟨.hbm, 1354, rfl⟩
abbrev main_v895 : Ref sig .tc := ⟨.hbm, 1355, rfl⟩
abbrev main_v896 : Ref sig .tc := ⟨.hbm, 1356, rfl⟩
abbrev main_v897 : Ref sig .tc := ⟨.hbm, 1357, rfl⟩
abbrev main_v898 : Ref sig .tc := ⟨.hbm, 1358, rfl⟩
abbrev main_v899 : Ref sig .tc := ⟨.hbm, 1359, rfl⟩
abbrev main_v900 : Ref sig .tc := ⟨.hbm, 1360, rfl⟩
abbrev main_v901 : Ref sig .tc := ⟨.hbm, 1361, rfl⟩
abbrev main_v902 : Ref sig .tc := ⟨.hbm, 1362, rfl⟩
abbrev main_v903 : Ref sig .tc := ⟨.hbm, 1363, rfl⟩
abbrev main_v904 : Ref sig .tc := ⟨.hbm, 1364, rfl⟩
abbrev main_v905 : Ref sig .tc := ⟨.hbm, 1365, rfl⟩
abbrev main_v906 : Ref sig .tc := ⟨.hbm, 1366, rfl⟩
abbrev main_v907 : Ref sig .tc := ⟨.hbm, 1367, rfl⟩
abbrev main_v908 : Ref sig .tc := ⟨.hbm, 1368, rfl⟩
abbrev main_v909 : Ref sig .tc := ⟨.hbm, 1369, rfl⟩
abbrev main_v910 : Ref sig .tc := ⟨.hbm, 1370, rfl⟩
abbrev main_v911 : Ref sig .tc := ⟨.hbm, 1371, rfl⟩
abbrev main_c_290 : Ref sig .tc := ⟨.hbm, 1372, rfl⟩
abbrev main_v912 : Ref sig .tc := ⟨.hbm, 1373, rfl⟩
abbrev main_v913 : Ref sig .tc := ⟨.hbm, 1374, rfl⟩
abbrev main_c_291 : Ref sig .tc := ⟨.hbm, 1375, rfl⟩
abbrev main_v914 : Ref sig .tc := ⟨.hbm, 1376, rfl⟩
abbrev main_v915 : Ref sig .tc := ⟨.hbm, 1377, rfl⟩
abbrev main_v916 : Ref sig .tc := ⟨.hbm, 1378, rfl⟩
abbrev main_v917 : Ref sig .tc := ⟨.hbm, 1379, rfl⟩
abbrev main_v918 : Ref sig .tc := ⟨.hbm, 1380, rfl⟩
abbrev main_v919 : Ref sig .tc := ⟨.hbm, 1381, rfl⟩
abbrev main_v920 : Ref sig .tc := ⟨.hbm, 1382, rfl⟩
abbrev main_cst_292 : Ref sig .tc := ⟨.hbm, 1383, rfl⟩
abbrev main_v921 : Ref sig .tc := ⟨.hbm, 1384, rfl⟩
abbrev main_v922 : Ref sig .tc := ⟨.hbm, 1385, rfl⟩
abbrev main_cst_293 : Ref sig .tc := ⟨.hbm, 1386, rfl⟩
abbrev main_v923 : Ref sig .tc := ⟨.hbm, 1387, rfl⟩
abbrev main_v924 : Ref sig .tc := ⟨.hbm, 1388, rfl⟩
abbrev main_cst_294 : Ref sig .tc := ⟨.hbm, 1389, rfl⟩
abbrev main_v925 : Ref sig .tc := ⟨.hbm, 1390, rfl⟩
abbrev main_v926 : Ref sig .tc := ⟨.hbm, 1391, rfl⟩
abbrev main_v927 : Ref sig .tc := ⟨.hbm, 1392, rfl⟩
abbrev main_v928 : Ref sig .tc := ⟨.hbm, 1393, rfl⟩
abbrev main_cst_295 : Ref sig .tc := ⟨.hbm, 1394, rfl⟩
abbrev main_v929 : Ref sig .tc := ⟨.hbm, 1395, rfl⟩
abbrev main_v930 : Ref sig .tc := ⟨.hbm, 1396, rfl⟩
abbrev main_cst_296 : Ref sig .tc := ⟨.hbm, 1397, rfl⟩
abbrev main_v931 : Ref sig .tc := ⟨.hbm, 1398, rfl⟩
abbrev main_v932 : Ref sig .tc := ⟨.hbm, 1399, rfl⟩
abbrev main_cst_297 : Ref sig .tc := ⟨.hbm, 1400, rfl⟩
abbrev main_v933 : Ref sig .tc := ⟨.hbm, 1401, rfl⟩
abbrev main_v934 : Ref sig .tc := ⟨.hbm, 1402, rfl⟩
abbrev main_v935 : Ref sig .tc := ⟨.hbm, 1403, rfl⟩
abbrev main_v936 : Ref sig .tc := ⟨.hbm, 1404, rfl⟩
abbrev main_v937 : Ref sig .tc := ⟨.hbm, 1405, rfl⟩
abbrev main_v938 : Ref sig .tc := ⟨.hbm, 1406, rfl⟩
abbrev main_v939 : Ref sig .tc := ⟨.hbm, 1407, rfl⟩
abbrev main_c_298 : Ref sig .tc := ⟨.hbm, 1408, rfl⟩
abbrev main_c_299 : Ref sig .tc := ⟨.hbm, 1409, rfl⟩
abbrev main_call28_v0 : Ref sig .tc := ⟨.hbm, 1410, rfl⟩
abbrev main_call28_v1 : Ref sig .tc := ⟨.hbm, 1411, rfl⟩
abbrev main_call28_v2 : Ref sig .tc := ⟨.hbm, 1412, rfl⟩
abbrev main_call28_v3 : Ref sig .tc := ⟨.hbm, 1413, rfl⟩
abbrev main_call28_v4 : Ref sig .tc := ⟨.hbm, 1414, rfl⟩
abbrev main_v940 : Ref sig .tc := ⟨.hbm, 1415, rfl⟩
abbrev main_c_300 : Ref sig .tc := ⟨.hbm, 1416, rfl⟩
abbrev main_v941 : Ref sig .tc := ⟨.hbm, 1417, rfl⟩
abbrev main_v942 : Ref sig .tc := ⟨.hbm, 1418, rfl⟩
abbrev main_c_301 : Ref sig .tc := ⟨.hbm, 1419, rfl⟩
abbrev main_c_302 : Ref sig .tc := ⟨.hbm, 1420, rfl⟩
abbrev main_call29_v0 : Ref sig .tc := ⟨.hbm, 1421, rfl⟩
abbrev main_call29_v1 : Ref sig .tc := ⟨.hbm, 1422, rfl⟩
abbrev main_call29_v2 : Ref sig .tc := ⟨.hbm, 1423, rfl⟩
abbrev main_call29_v3 : Ref sig .tc := ⟨.hbm, 1424, rfl⟩
abbrev main_call29_v4 : Ref sig .tc := ⟨.hbm, 1425, rfl⟩
abbrev main_v943 : Ref sig .tc := ⟨.hbm, 1426, rfl⟩
abbrev main_v944 : Ref sig .tc := ⟨.hbm, 1427, rfl⟩
abbrev main_c_303 : Ref sig .tc := ⟨.hbm, 1428, rfl⟩
abbrev main_c_304 : Ref sig .tc := ⟨.hbm, 1429, rfl⟩
abbrev main_call30_v0 : Ref sig .tc := ⟨.hbm, 1430, rfl⟩
abbrev main_call30_v1 : Ref sig .tc := ⟨.hbm, 1431, rfl⟩
abbrev main_call30_v2 : Ref sig .tc := ⟨.hbm, 1432, rfl⟩
abbrev main_call30_v3 : Ref sig .tc := ⟨.hbm, 1433, rfl⟩
abbrev main_call30_v4 : Ref sig .tc := ⟨.hbm, 1434, rfl⟩
abbrev main_v945 : Ref sig .tc := ⟨.hbm, 1435, rfl⟩
abbrev main_c_305 : Ref sig .tc := ⟨.hbm, 1436, rfl⟩
abbrev main_v946 : Ref sig .tc := ⟨.hbm, 1437, rfl⟩
abbrev main_v947 : Ref sig .tc := ⟨.hbm, 1438, rfl⟩
abbrev main_c_306 : Ref sig .tc := ⟨.hbm, 1439, rfl⟩
abbrev main_c_307 : Ref sig .tc := ⟨.hbm, 1440, rfl⟩
abbrev main_call31_v0 : Ref sig .tc := ⟨.hbm, 1441, rfl⟩
abbrev main_call31_v1 : Ref sig .tc := ⟨.hbm, 1442, rfl⟩
abbrev main_call31_v2 : Ref sig .tc := ⟨.hbm, 1443, rfl⟩
abbrev main_call31_v3 : Ref sig .tc := ⟨.hbm, 1444, rfl⟩
abbrev main_call31_v4 : Ref sig .tc := ⟨.hbm, 1445, rfl⟩
abbrev main_v948 : Ref sig .tc := ⟨.hbm, 1446, rfl⟩
abbrev main_c_308 : Ref sig .tc := ⟨.hbm, 1447, rfl⟩
abbrev main_v949 : Ref sig .tc := ⟨.hbm, 1448, rfl⟩
abbrev main_v950 : Ref sig .tc := ⟨.hbm, 1449, rfl⟩
abbrev main_c_309 : Ref sig .tc := ⟨.hbm, 1450, rfl⟩
abbrev main_v951 : Ref sig .tc := ⟨.hbm, 1451, rfl⟩
abbrev main_v952 : Ref sig .tc := ⟨.hbm, 1452, rfl⟩
abbrev main_v953 : Ref sig .tc := ⟨.hbm, 1453, rfl⟩
abbrev main_c_310 : Ref sig .tc := ⟨.hbm, 1454, rfl⟩
abbrev main_v954 : Ref sig .tc := ⟨.hbm, 1455, rfl⟩
abbrev main_v955 : Ref sig .tc := ⟨.hbm, 1456, rfl⟩
abbrev main_c_311 : Ref sig .tc := ⟨.hbm, 1457, rfl⟩
abbrev main_v956 : Ref sig .tc := ⟨.hbm, 1458, rfl⟩
abbrev main_v957 : Ref sig .tc := ⟨.hbm, 1459, rfl⟩
abbrev main_v958 : Ref sig .tc := ⟨.hbm, 1460, rfl⟩
abbrev main_v959 : Ref sig .tc := ⟨.hbm, 1461, rfl⟩
abbrev main_v960 : Ref sig .tc := ⟨.hbm, 1462, rfl⟩
abbrev main_v961 : Ref sig .tc := ⟨.hbm, 1463, rfl⟩
abbrev main_v962 : Ref sig .tc := ⟨.hbm, 1464, rfl⟩
abbrev main_c_312 : Ref sig .tc := ⟨.hbm, 1465, rfl⟩
abbrev main_v963 : Ref sig .tc := ⟨.hbm, 1466, rfl⟩
abbrev main_v964 : Ref sig .tc := ⟨.hbm, 1467, rfl⟩
abbrev main_c_313 : Ref sig .tc := ⟨.hbm, 1468, rfl⟩
abbrev main_v965 : Ref sig .tc := ⟨.hbm, 1469, rfl⟩
abbrev main_v966 : Ref sig .tc := ⟨.hbm, 1470, rfl⟩
abbrev main_v967 : Ref sig .tc := ⟨.hbm, 1471, rfl⟩
abbrev main_c_314 : Ref sig .tc := ⟨.hbm, 1472, rfl⟩
abbrev main_v968 : Ref sig .tc := ⟨.hbm, 1473, rfl⟩
abbrev main_v969 : Ref sig .tc := ⟨.hbm, 1474, rfl⟩
abbrev main_c_315 : Ref sig .tc := ⟨.hbm, 1475, rfl⟩
abbrev main_v970 : Ref sig .tc := ⟨.hbm, 1476, rfl⟩
abbrev main_v971 : Ref sig .tc := ⟨.hbm, 1477, rfl⟩
abbrev main_v972 : Ref sig .tc := ⟨.hbm, 1478, rfl⟩
abbrev main_v973 : Ref sig .tc := ⟨.hbm, 1479, rfl⟩
abbrev main_v974 : Ref sig .tc := ⟨.hbm, 1480, rfl⟩
abbrev main_v975 : Ref sig .tc := ⟨.hbm, 1481, rfl⟩
abbrev main_v976 : Ref sig .tc := ⟨.hbm, 1482, rfl⟩
abbrev main_c_316 : Ref sig .tc := ⟨.hbm, 1483, rfl⟩
abbrev main_v977 : Ref sig .tc := ⟨.hbm, 1484, rfl⟩
abbrev main_v978 : Ref sig .tc := ⟨.hbm, 1485, rfl⟩
abbrev main_c_317 : Ref sig .tc := ⟨.hbm, 1486, rfl⟩
abbrev main_v979 : Ref sig .tc := ⟨.hbm, 1487, rfl⟩
abbrev main_v980 : Ref sig .tc := ⟨.hbm, 1488, rfl⟩
abbrev main_v981 : Ref sig .tc := ⟨.hbm, 1489, rfl⟩
abbrev main_c_318 : Ref sig .tc := ⟨.hbm, 1490, rfl⟩
abbrev main_v982 : Ref sig .tc := ⟨.hbm, 1491, rfl⟩
abbrev main_v983 : Ref sig .tc := ⟨.hbm, 1492, rfl⟩
abbrev main_c_319 : Ref sig .tc := ⟨.hbm, 1493, rfl⟩
abbrev main_v984 : Ref sig .tc := ⟨.hbm, 1494, rfl⟩
abbrev main_v985 : Ref sig .tc := ⟨.hbm, 1495, rfl⟩
abbrev main_v986 : Ref sig .tc := ⟨.hbm, 1496, rfl⟩
abbrev main_v987 : Ref sig .tc := ⟨.hbm, 1497, rfl⟩
abbrev main_v988 : Ref sig .tc := ⟨.hbm, 1498, rfl⟩
abbrev main_v989 : Ref sig .tc := ⟨.hbm, 1499, rfl⟩
abbrev main_v990 : Ref sig .tc := ⟨.hbm, 1500, rfl⟩
abbrev main_c_320 : Ref sig .tc := ⟨.hbm, 1501, rfl⟩
abbrev main_v991 : Ref sig .tc := ⟨.hbm, 1502, rfl⟩
abbrev main_v992 : Ref sig .tc := ⟨.hbm, 1503, rfl⟩
abbrev main_c_321 : Ref sig .tc := ⟨.hbm, 1504, rfl⟩
abbrev main_v993 : Ref sig .tc := ⟨.hbm, 1505, rfl⟩
abbrev main_v994 : Ref sig .tc := ⟨.hbm, 1506, rfl⟩
abbrev main_v995 : Ref sig .tc := ⟨.hbm, 1507, rfl⟩
abbrev main_c_322 : Ref sig .tc := ⟨.hbm, 1508, rfl⟩
abbrev main_v996 : Ref sig .tc := ⟨.hbm, 1509, rfl⟩
abbrev main_v997 : Ref sig .tc := ⟨.hbm, 1510, rfl⟩
abbrev main_c_323 : Ref sig .tc := ⟨.hbm, 1511, rfl⟩
abbrev main_v998 : Ref sig .tc := ⟨.hbm, 1512, rfl⟩
abbrev main_v999 : Ref sig .tc := ⟨.hbm, 1513, rfl⟩
abbrev main_v1000 : Ref sig .tc := ⟨.hbm, 1514, rfl⟩
abbrev main_v1001 : Ref sig .tc := ⟨.hbm, 1515, rfl⟩
abbrev main_v1002 : Ref sig .tc := ⟨.hbm, 1516, rfl⟩
abbrev main_v1003 : Ref sig .tc := ⟨.hbm, 1517, rfl⟩
abbrev main_v1004 : Ref sig .tc := ⟨.hbm, 1518, rfl⟩
abbrev main_cst_324 : Ref sig .tc := ⟨.hbm, 1519, rfl⟩
abbrev main_v1005 : Ref sig .tc := ⟨.hbm, 1520, rfl⟩
abbrev main_v1006 : Ref sig .tc := ⟨.hbm, 1521, rfl⟩
abbrev main_v1007 : Ref sig .tc := ⟨.hbm, 1522, rfl⟩
abbrev main_v1008 : Ref sig .tc := ⟨.hbm, 1523, rfl⟩
abbrev main_v1009 : Ref sig .tc := ⟨.hbm, 1524, rfl⟩
abbrev main_cst_325 : Ref sig .tc := ⟨.hbm, 1525, rfl⟩
abbrev main_v1010 : Ref sig .tc := ⟨.hbm, 1526, rfl⟩
abbrev main_v1011 : Ref sig .tc := ⟨.hbm, 1527, rfl⟩
abbrev main_v1012 : Ref sig .tc := ⟨.hbm, 1528, rfl⟩
abbrev main_v1013 : Ref sig .tc := ⟨.hbm, 1529, rfl⟩
abbrev main_v1014 : Ref sig .tc := ⟨.hbm, 1530, rfl⟩
abbrev main_v1015 : Ref sig .tc := ⟨.hbm, 1531, rfl⟩
abbrev main_v1016 : Ref sig .tc := ⟨.hbm, 1532, rfl⟩
abbrev main_v1017 : Ref sig .tc := ⟨.hbm, 1533, rfl⟩
abbrev main_cst_326 : Ref sig .tc := ⟨.hbm, 1534, rfl⟩
abbrev main_v1018 : Ref sig .tc := ⟨.hbm, 1535, rfl⟩
abbrev main_v1019 : Ref sig .tc := ⟨.hbm, 1536, rfl⟩
abbrev main_v1020 : Ref sig .tc := ⟨.hbm, 1537, rfl⟩
abbrev main_v1021 : Ref sig .tc := ⟨.hbm, 1538, rfl⟩
abbrev main_v1022 : Ref sig .tc := ⟨.hbm, 1539, rfl⟩
abbrev main_v1023 : Ref sig .tc := ⟨.hbm, 1540, rfl⟩
abbrev main_cst_327 : Ref sig .tc := ⟨.hbm, 1541, rfl⟩
abbrev main_v1024 : Ref sig .tc := ⟨.hbm, 1542, rfl⟩
abbrev main_v1025 : Ref sig .tc := ⟨.hbm, 1543, rfl⟩
abbrev main_v1026 : Ref sig .tc := ⟨.hbm, 1544, rfl⟩
abbrev main_v1027 : Ref sig .tc := ⟨.hbm, 1545, rfl⟩
abbrev main_v1028 : Ref sig .tc := ⟨.hbm, 1546, rfl⟩
abbrev main_v1029 : Ref sig .tc := ⟨.hbm, 1547, rfl⟩
abbrev main_v1030 : Ref sig .tc := ⟨.hbm, 1548, rfl⟩
abbrev main_v1031 : Ref sig .tc := ⟨.hbm, 1549, rfl⟩
abbrev main_v1032 : Ref sig .tc := ⟨.hbm, 1550, rfl⟩
abbrev main_v1033 : Ref sig .tc := ⟨.hbm, 1551, rfl⟩
abbrev main_v1034 : Ref sig .tc := ⟨.hbm, 1552, rfl⟩
abbrev main_v1035 : Ref sig .tc := ⟨.hbm, 1553, rfl⟩
abbrev main_v1036 : Ref sig .tc := ⟨.hbm, 1554, rfl⟩
abbrev main_v1037 : Ref sig .tc := ⟨.hbm, 1555, rfl⟩
abbrev main_v1038 : Ref sig .tc := ⟨.hbm, 1556, rfl⟩
abbrev main_v1039 : Ref sig .tc := ⟨.hbm, 1557, rfl⟩
abbrev main_v1040 : Ref sig .tc := ⟨.hbm, 1558, rfl⟩
abbrev main_c_328 : Ref sig .tc := ⟨.hbm, 1559, rfl⟩
abbrev main_v1041 : Ref sig .tc := ⟨.hbm, 1560, rfl⟩
abbrev main_v1042 : Ref sig .tc := ⟨.hbm, 1561, rfl⟩
abbrev main_c_329 : Ref sig .tc := ⟨.hbm, 1562, rfl⟩
abbrev main_v1043 : Ref sig .tc := ⟨.hbm, 1563, rfl⟩
abbrev main_v1044 : Ref sig .tc := ⟨.hbm, 1564, rfl⟩
abbrev main_v1045 : Ref sig .tc := ⟨.hbm, 1565, rfl⟩
abbrev main_v1046 : Ref sig .tc := ⟨.hbm, 1566, rfl⟩
abbrev main_v1047 : Ref sig .tc := ⟨.hbm, 1567, rfl⟩
abbrev main_v1048 : Ref sig .tc := ⟨.hbm, 1568, rfl⟩
abbrev main_v1049 : Ref sig .tc := ⟨.hbm, 1569, rfl⟩
abbrev main_cst_330 : Ref sig .tc := ⟨.hbm, 1570, rfl⟩
abbrev main_v1050 : Ref sig .tc := ⟨.hbm, 1571, rfl⟩
abbrev main_v1051 : Ref sig .tc := ⟨.hbm, 1572, rfl⟩
abbrev main_cst_331 : Ref sig .tc := ⟨.hbm, 1573, rfl⟩
abbrev main_v1052 : Ref sig .tc := ⟨.hbm, 1574, rfl⟩
abbrev main_v1053 : Ref sig .tc := ⟨.hbm, 1575, rfl⟩
abbrev main_cst_332 : Ref sig .tc := ⟨.hbm, 1576, rfl⟩
abbrev main_v1054 : Ref sig .tc := ⟨.hbm, 1577, rfl⟩
abbrev main_v1055 : Ref sig .tc := ⟨.hbm, 1578, rfl⟩
abbrev main_v1056 : Ref sig .tc := ⟨.hbm, 1579, rfl⟩
abbrev main_v1057 : Ref sig .tc := ⟨.hbm, 1580, rfl⟩
abbrev main_cst_333 : Ref sig .tc := ⟨.hbm, 1581, rfl⟩
abbrev main_v1058 : Ref sig .tc := ⟨.hbm, 1582, rfl⟩
abbrev main_v1059 : Ref sig .tc := ⟨.hbm, 1583, rfl⟩
abbrev main_cst_334 : Ref sig .tc := ⟨.hbm, 1584, rfl⟩
abbrev main_v1060 : Ref sig .tc := ⟨.hbm, 1585, rfl⟩
abbrev main_v1061 : Ref sig .tc := ⟨.hbm, 1586, rfl⟩
abbrev main_cst_335 : Ref sig .tc := ⟨.hbm, 1587, rfl⟩
abbrev main_v1062 : Ref sig .tc := ⟨.hbm, 1588, rfl⟩
abbrev main_v1063 : Ref sig .tc := ⟨.hbm, 1589, rfl⟩
abbrev main_v1064 : Ref sig .tc := ⟨.hbm, 1590, rfl⟩
abbrev main_v1065 : Ref sig .tc := ⟨.hbm, 1591, rfl⟩
abbrev main_v1066 : Ref sig .tc := ⟨.hbm, 1592, rfl⟩
abbrev main_v1067 : Ref sig .tc := ⟨.hbm, 1593, rfl⟩
abbrev main_v1068 : Ref sig .tc := ⟨.hbm, 1594, rfl⟩
abbrev main_c_336 : Ref sig .tc := ⟨.hbm, 1595, rfl⟩
abbrev main_c_337 : Ref sig .tc := ⟨.hbm, 1596, rfl⟩
abbrev main_call32_v0 : Ref sig .tc := ⟨.hbm, 1597, rfl⟩
abbrev main_call32_v1 : Ref sig .tc := ⟨.hbm, 1598, rfl⟩
abbrev main_call32_v2 : Ref sig .tc := ⟨.hbm, 1599, rfl⟩
abbrev main_call32_v3 : Ref sig .tc := ⟨.hbm, 1600, rfl⟩
abbrev main_call32_v4 : Ref sig .tc := ⟨.hbm, 1601, rfl⟩
abbrev main_v1069 : Ref sig .tc := ⟨.hbm, 1602, rfl⟩
abbrev main_c_338 : Ref sig .tc := ⟨.hbm, 1603, rfl⟩
abbrev main_v1070 : Ref sig .tc := ⟨.hbm, 1604, rfl⟩
abbrev main_v1071 : Ref sig .tc := ⟨.hbm, 1605, rfl⟩
abbrev main_c_339 : Ref sig .tc := ⟨.hbm, 1606, rfl⟩
abbrev main_c_340 : Ref sig .tc := ⟨.hbm, 1607, rfl⟩
abbrev main_call33_v0 : Ref sig .tc := ⟨.hbm, 1608, rfl⟩
abbrev main_call33_v1 : Ref sig .tc := ⟨.hbm, 1609, rfl⟩
abbrev main_call33_v2 : Ref sig .tc := ⟨.hbm, 1610, rfl⟩
abbrev main_call33_v3 : Ref sig .tc := ⟨.hbm, 1611, rfl⟩
abbrev main_call33_v4 : Ref sig .tc := ⟨.hbm, 1612, rfl⟩
abbrev main_v1072 : Ref sig .tc := ⟨.hbm, 1613, rfl⟩
abbrev main_v1073 : Ref sig .tc := ⟨.hbm, 1614, rfl⟩
abbrev main_c_341 : Ref sig .tc := ⟨.hbm, 1615, rfl⟩
abbrev main_c_342 : Ref sig .tc := ⟨.hbm, 1616, rfl⟩
abbrev main_call34_v0 : Ref sig .tc := ⟨.hbm, 1617, rfl⟩
abbrev main_call34_v1 : Ref sig .tc := ⟨.hbm, 1618, rfl⟩
abbrev main_call34_v2 : Ref sig .tc := ⟨.hbm, 1619, rfl⟩
abbrev main_call34_v3 : Ref sig .tc := ⟨.hbm, 1620, rfl⟩
abbrev main_call34_v4 : Ref sig .tc := ⟨.hbm, 1621, rfl⟩
abbrev main_v1074 : Ref sig .tc := ⟨.hbm, 1622, rfl⟩
abbrev main_c_343 : Ref sig .tc := ⟨.hbm, 1623, rfl⟩
abbrev main_v1075 : Ref sig .tc := ⟨.hbm, 1624, rfl⟩
abbrev main_v1076 : Ref sig .tc := ⟨.hbm, 1625, rfl⟩
abbrev main_c_344 : Ref sig .tc := ⟨.hbm, 1626, rfl⟩
abbrev main_c_345 : Ref sig .tc := ⟨.hbm, 1627, rfl⟩
abbrev main_call35_v0 : Ref sig .tc := ⟨.hbm, 1628, rfl⟩
abbrev main_call35_v1 : Ref sig .tc := ⟨.hbm, 1629, rfl⟩
abbrev main_call35_v2 : Ref sig .tc := ⟨.hbm, 1630, rfl⟩
abbrev main_call35_v3 : Ref sig .tc := ⟨.hbm, 1631, rfl⟩
abbrev main_call35_v4 : Ref sig .tc := ⟨.hbm, 1632, rfl⟩
abbrev main_v1077 : Ref sig .tc := ⟨.hbm, 1633, rfl⟩
abbrev main_c_346 : Ref sig .tc := ⟨.hbm, 1634, rfl⟩
abbrev main_v1078 : Ref sig .tc := ⟨.hbm, 1635, rfl⟩
abbrev main_v1079 : Ref sig .tc := ⟨.hbm, 1636, rfl⟩
abbrev main_c_347 : Ref sig .tc := ⟨.hbm, 1637, rfl⟩
abbrev main_v1080 : Ref sig .tc := ⟨.hbm, 1638, rfl⟩
abbrev main_v1081 : Ref sig .tc := ⟨.hbm, 1639, rfl⟩
abbrev main_v1082 : Ref sig .tc := ⟨.hbm, 1640, rfl⟩
abbrev main_c_348 : Ref sig .tc := ⟨.hbm, 1641, rfl⟩
abbrev main_v1083 : Ref sig .tc := ⟨.hbm, 1642, rfl⟩
abbrev main_v1084 : Ref sig .tc := ⟨.hbm, 1643, rfl⟩
abbrev main_c_349 : Ref sig .tc := ⟨.hbm, 1644, rfl⟩
abbrev main_v1085 : Ref sig .tc := ⟨.hbm, 1645, rfl⟩
abbrev main_v1086 : Ref sig .tc := ⟨.hbm, 1646, rfl⟩
abbrev main_v1087 : Ref sig .tc := ⟨.hbm, 1647, rfl⟩
abbrev main_v1088 : Ref sig .tc := ⟨.hbm, 1648, rfl⟩
abbrev main_v1089 : Ref sig .tc := ⟨.hbm, 1649, rfl⟩
abbrev main_v1090 : Ref sig .tc := ⟨.hbm, 1650, rfl⟩
abbrev main_v1091 : Ref sig .tc := ⟨.hbm, 1651, rfl⟩
abbrev main_c_350 : Ref sig .tc := ⟨.hbm, 1652, rfl⟩
abbrev main_v1092 : Ref sig .tc := ⟨.hbm, 1653, rfl⟩
abbrev main_v1093 : Ref sig .tc := ⟨.hbm, 1654, rfl⟩
abbrev main_c_351 : Ref sig .tc := ⟨.hbm, 1655, rfl⟩
abbrev main_v1094 : Ref sig .tc := ⟨.hbm, 1656, rfl⟩
abbrev main_v1095 : Ref sig .tc := ⟨.hbm, 1657, rfl⟩
abbrev main_v1096 : Ref sig .tc := ⟨.hbm, 1658, rfl⟩
abbrev main_c_352 : Ref sig .tc := ⟨.hbm, 1659, rfl⟩
abbrev main_v1097 : Ref sig .tc := ⟨.hbm, 1660, rfl⟩
abbrev main_v1098 : Ref sig .tc := ⟨.hbm, 1661, rfl⟩
abbrev main_c_353 : Ref sig .tc := ⟨.hbm, 1662, rfl⟩
abbrev main_v1099 : Ref sig .tc := ⟨.hbm, 1663, rfl⟩
abbrev main_v1100 : Ref sig .tc := ⟨.hbm, 1664, rfl⟩
abbrev main_v1101 : Ref sig .tc := ⟨.hbm, 1665, rfl⟩
abbrev main_v1102 : Ref sig .tc := ⟨.hbm, 1666, rfl⟩
abbrev main_v1103 : Ref sig .tc := ⟨.hbm, 1667, rfl⟩
abbrev main_v1104 : Ref sig .tc := ⟨.hbm, 1668, rfl⟩
abbrev main_v1105 : Ref sig .tc := ⟨.hbm, 1669, rfl⟩
abbrev main_c_354 : Ref sig .tc := ⟨.hbm, 1670, rfl⟩
abbrev main_v1106 : Ref sig .tc := ⟨.hbm, 1671, rfl⟩
abbrev main_v1107 : Ref sig .tc := ⟨.hbm, 1672, rfl⟩
abbrev main_c_355 : Ref sig .tc := ⟨.hbm, 1673, rfl⟩
abbrev main_v1108 : Ref sig .tc := ⟨.hbm, 1674, rfl⟩
abbrev main_v1109 : Ref sig .tc := ⟨.hbm, 1675, rfl⟩
abbrev main_v1110 : Ref sig .tc := ⟨.hbm, 1676, rfl⟩
abbrev main_c_356 : Ref sig .tc := ⟨.hbm, 1677, rfl⟩
abbrev main_v1111 : Ref sig .tc := ⟨.hbm, 1678, rfl⟩
abbrev main_v1112 : Ref sig .tc := ⟨.hbm, 1679, rfl⟩
abbrev main_c_357 : Ref sig .tc := ⟨.hbm, 1680, rfl⟩
abbrev main_v1113 : Ref sig .tc := ⟨.hbm, 1681, rfl⟩
abbrev main_v1114 : Ref sig .tc := ⟨.hbm, 1682, rfl⟩
abbrev main_v1115 : Ref sig .tc := ⟨.hbm, 1683, rfl⟩
abbrev main_v1116 : Ref sig .tc := ⟨.hbm, 1684, rfl⟩
abbrev main_v1117 : Ref sig .tc := ⟨.hbm, 1685, rfl⟩
abbrev main_v1118 : Ref sig .tc := ⟨.hbm, 1686, rfl⟩
abbrev main_v1119 : Ref sig .tc := ⟨.hbm, 1687, rfl⟩
abbrev main_c_358 : Ref sig .tc := ⟨.hbm, 1688, rfl⟩
abbrev main_v1120 : Ref sig .tc := ⟨.hbm, 1689, rfl⟩
abbrev main_v1121 : Ref sig .tc := ⟨.hbm, 1690, rfl⟩
abbrev main_c_359 : Ref sig .tc := ⟨.hbm, 1691, rfl⟩
abbrev main_v1122 : Ref sig .tc := ⟨.hbm, 1692, rfl⟩
abbrev main_v1123 : Ref sig .tc := ⟨.hbm, 1693, rfl⟩
abbrev main_v1124 : Ref sig .tc := ⟨.hbm, 1694, rfl⟩
abbrev main_c_360 : Ref sig .tc := ⟨.hbm, 1695, rfl⟩
abbrev main_v1125 : Ref sig .tc := ⟨.hbm, 1696, rfl⟩
abbrev main_v1126 : Ref sig .tc := ⟨.hbm, 1697, rfl⟩
abbrev main_c_361 : Ref sig .tc := ⟨.hbm, 1698, rfl⟩
abbrev main_v1127 : Ref sig .tc := ⟨.hbm, 1699, rfl⟩
abbrev main_v1128 : Ref sig .tc := ⟨.hbm, 1700, rfl⟩
abbrev main_v1129 : Ref sig .tc := ⟨.hbm, 1701, rfl⟩
abbrev main_v1130 : Ref sig .tc := ⟨.hbm, 1702, rfl⟩
abbrev main_v1131 : Ref sig .tc := ⟨.hbm, 1703, rfl⟩
abbrev main_v1132 : Ref sig .tc := ⟨.hbm, 1704, rfl⟩
abbrev main_v1133 : Ref sig .tc := ⟨.hbm, 1705, rfl⟩
abbrev main_cst_362 : Ref sig .tc := ⟨.hbm, 1706, rfl⟩
abbrev main_v1134 : Ref sig .tc := ⟨.hbm, 1707, rfl⟩
abbrev main_v1135 : Ref sig .tc := ⟨.hbm, 1708, rfl⟩
abbrev main_v1136 : Ref sig .tc := ⟨.hbm, 1709, rfl⟩
abbrev main_v1137 : Ref sig .tc := ⟨.hbm, 1710, rfl⟩
abbrev main_v1138 : Ref sig .tc := ⟨.hbm, 1711, rfl⟩
abbrev main_cst_363 : Ref sig .tc := ⟨.hbm, 1712, rfl⟩
abbrev main_v1139 : Ref sig .tc := ⟨.hbm, 1713, rfl⟩
abbrev main_v1140 : Ref sig .tc := ⟨.hbm, 1714, rfl⟩
abbrev main_v1141 : Ref sig .tc := ⟨.hbm, 1715, rfl⟩
abbrev main_v1142 : Ref sig .tc := ⟨.hbm, 1716, rfl⟩
abbrev main_v1143 : Ref sig .tc := ⟨.hbm, 1717, rfl⟩
abbrev main_v1144 : Ref sig .tc := ⟨.hbm, 1718, rfl⟩
abbrev main_v1145 : Ref sig .tc := ⟨.hbm, 1719, rfl⟩
abbrev main_v1146 : Ref sig .tc := ⟨.hbm, 1720, rfl⟩
abbrev main_cst_364 : Ref sig .tc := ⟨.hbm, 1721, rfl⟩
abbrev main_v1147 : Ref sig .tc := ⟨.hbm, 1722, rfl⟩
abbrev main_v1148 : Ref sig .tc := ⟨.hbm, 1723, rfl⟩
abbrev main_v1149 : Ref sig .tc := ⟨.hbm, 1724, rfl⟩
abbrev main_v1150 : Ref sig .tc := ⟨.hbm, 1725, rfl⟩
abbrev main_v1151 : Ref sig .tc := ⟨.hbm, 1726, rfl⟩
abbrev main_v1152 : Ref sig .tc := ⟨.hbm, 1727, rfl⟩
abbrev main_cst_365 : Ref sig .tc := ⟨.hbm, 1728, rfl⟩
abbrev main_v1153 : Ref sig .tc := ⟨.hbm, 1729, rfl⟩
abbrev main_v1154 : Ref sig .tc := ⟨.hbm, 1730, rfl⟩
abbrev main_v1155 : Ref sig .tc := ⟨.hbm, 1731, rfl⟩
abbrev main_v1156 : Ref sig .tc := ⟨.hbm, 1732, rfl⟩
abbrev main_v1157 : Ref sig .tc := ⟨.hbm, 1733, rfl⟩
abbrev main_v1158 : Ref sig .tc := ⟨.hbm, 1734, rfl⟩
abbrev main_v1159 : Ref sig .tc := ⟨.hbm, 1735, rfl⟩
abbrev main_v1160 : Ref sig .tc := ⟨.hbm, 1736, rfl⟩
abbrev main_v1161 : Ref sig .tc := ⟨.hbm, 1737, rfl⟩
abbrev main_v1162 : Ref sig .tc := ⟨.hbm, 1738, rfl⟩
abbrev main_v1163 : Ref sig .tc := ⟨.hbm, 1739, rfl⟩
abbrev main_v1164 : Ref sig .tc := ⟨.hbm, 1740, rfl⟩
abbrev main_v1165 : Ref sig .tc := ⟨.hbm, 1741, rfl⟩
abbrev main_v1166 : Ref sig .tc := ⟨.hbm, 1742, rfl⟩
abbrev main_v1167 : Ref sig .tc := ⟨.hbm, 1743, rfl⟩
abbrev main_v1168 : Ref sig .tc := ⟨.hbm, 1744, rfl⟩
abbrev main_v1169 : Ref sig .tc := ⟨.hbm, 1745, rfl⟩
abbrev main_c_366 : Ref sig .tc := ⟨.hbm, 1746, rfl⟩
abbrev main_v1170 : Ref sig .tc := ⟨.hbm, 1747, rfl⟩
abbrev main_v1171 : Ref sig .tc := ⟨.hbm, 1748, rfl⟩
abbrev main_c_367 : Ref sig .tc := ⟨.hbm, 1749, rfl⟩
abbrev main_v1172 : Ref sig .tc := ⟨.hbm, 1750, rfl⟩
abbrev main_v1173 : Ref sig .tc := ⟨.hbm, 1751, rfl⟩
abbrev main_v1174 : Ref sig .tc := ⟨.hbm, 1752, rfl⟩
abbrev main_v1175 : Ref sig .tc := ⟨.hbm, 1753, rfl⟩
abbrev main_v1176 : Ref sig .tc := ⟨.hbm, 1754, rfl⟩
abbrev main_v1177 : Ref sig .tc := ⟨.hbm, 1755, rfl⟩
abbrev main_v1178 : Ref sig .tc := ⟨.hbm, 1756, rfl⟩
abbrev main_cst_368 : Ref sig .tc := ⟨.hbm, 1757, rfl⟩
abbrev main_v1179 : Ref sig .tc := ⟨.hbm, 1758, rfl⟩
abbrev main_v1180 : Ref sig .tc := ⟨.hbm, 1759, rfl⟩
abbrev main_cst_369 : Ref sig .tc := ⟨.hbm, 1760, rfl⟩
abbrev main_v1181 : Ref sig .tc := ⟨.hbm, 1761, rfl⟩
abbrev main_v1182 : Ref sig .tc := ⟨.hbm, 1762, rfl⟩
abbrev main_cst_370 : Ref sig .tc := ⟨.hbm, 1763, rfl⟩
abbrev main_v1183 : Ref sig .tc := ⟨.hbm, 1764, rfl⟩
abbrev main_v1184 : Ref sig .tc := ⟨.hbm, 1765, rfl⟩
abbrev main_v1185 : Ref sig .tc := ⟨.hbm, 1766, rfl⟩
abbrev main_v1186 : Ref sig .tc := ⟨.hbm, 1767, rfl⟩
abbrev main_cst_371 : Ref sig .tc := ⟨.hbm, 1768, rfl⟩
abbrev main_v1187 : Ref sig .tc := ⟨.hbm, 1769, rfl⟩
abbrev main_v1188 : Ref sig .tc := ⟨.hbm, 1770, rfl⟩
abbrev main_cst_372 : Ref sig .tc := ⟨.hbm, 1771, rfl⟩
abbrev main_v1189 : Ref sig .tc := ⟨.hbm, 1772, rfl⟩
abbrev main_v1190 : Ref sig .tc := ⟨.hbm, 1773, rfl⟩
abbrev main_cst_373 : Ref sig .tc := ⟨.hbm, 1774, rfl⟩
abbrev main_v1191 : Ref sig .tc := ⟨.hbm, 1775, rfl⟩
abbrev main_v1192 : Ref sig .tc := ⟨.hbm, 1776, rfl⟩
abbrev main_v1193 : Ref sig .tc := ⟨.hbm, 1777, rfl⟩
abbrev main_v1194 : Ref sig .tc := ⟨.hbm, 1778, rfl⟩
abbrev main_v1195 : Ref sig .tc := ⟨.hbm, 1779, rfl⟩
abbrev main_v1196 : Ref sig .tc := ⟨.hbm, 1780, rfl⟩
abbrev main_v1197 : Ref sig .tc := ⟨.hbm, 1781, rfl⟩
abbrev main_c_374 : Ref sig .tc := ⟨.hbm, 1782, rfl⟩
abbrev main_c_375 : Ref sig .tc := ⟨.hbm, 1783, rfl⟩
abbrev main_call36_v0 : Ref sig .tc := ⟨.hbm, 1784, rfl⟩
abbrev main_call36_v1 : Ref sig .tc := ⟨.hbm, 1785, rfl⟩
abbrev main_call36_v2 : Ref sig .tc := ⟨.hbm, 1786, rfl⟩
abbrev main_call36_v3 : Ref sig .tc := ⟨.hbm, 1787, rfl⟩
abbrev main_call36_v4 : Ref sig .tc := ⟨.hbm, 1788, rfl⟩
abbrev main_v1198 : Ref sig .tc := ⟨.hbm, 1789, rfl⟩
abbrev main_c_376 : Ref sig .tc := ⟨.hbm, 1790, rfl⟩
abbrev main_v1199 : Ref sig .tc := ⟨.hbm, 1791, rfl⟩
abbrev main_v1200 : Ref sig .tc := ⟨.hbm, 1792, rfl⟩
abbrev main_c_377 : Ref sig .tc := ⟨.hbm, 1793, rfl⟩
abbrev main_c_378 : Ref sig .tc := ⟨.hbm, 1794, rfl⟩
abbrev main_call37_v0 : Ref sig .tc := ⟨.hbm, 1795, rfl⟩
abbrev main_call37_v1 : Ref sig .tc := ⟨.hbm, 1796, rfl⟩
abbrev main_call37_v2 : Ref sig .tc := ⟨.hbm, 1797, rfl⟩
abbrev main_call37_v3 : Ref sig .tc := ⟨.hbm, 1798, rfl⟩
abbrev main_call37_v4 : Ref sig .tc := ⟨.hbm, 1799, rfl⟩
abbrev main_v1201 : Ref sig .tc := ⟨.hbm, 1800, rfl⟩
abbrev main_v1202 : Ref sig .tc := ⟨.hbm, 1801, rfl⟩
abbrev main_c_379 : Ref sig .tc := ⟨.hbm, 1802, rfl⟩
abbrev main_c_380 : Ref sig .tc := ⟨.hbm, 1803, rfl⟩
abbrev main_call38_v0 : Ref sig .tc := ⟨.hbm, 1804, rfl⟩
abbrev main_call38_v1 : Ref sig .tc := ⟨.hbm, 1805, rfl⟩
abbrev main_call38_v2 : Ref sig .tc := ⟨.hbm, 1806, rfl⟩
abbrev main_call38_v3 : Ref sig .tc := ⟨.hbm, 1807, rfl⟩
abbrev main_call38_v4 : Ref sig .tc := ⟨.hbm, 1808, rfl⟩
abbrev main_v1203 : Ref sig .tc := ⟨.hbm, 1809, rfl⟩
abbrev main_c_381 : Ref sig .tc := ⟨.hbm, 1810, rfl⟩
abbrev main_v1204 : Ref sig .tc := ⟨.hbm, 1811, rfl⟩
abbrev main_v1205 : Ref sig .tc := ⟨.hbm, 1812, rfl⟩
abbrev main_c_382 : Ref sig .tc := ⟨.hbm, 1813, rfl⟩
abbrev main_c_383 : Ref sig .tc := ⟨.hbm, 1814, rfl⟩
abbrev main_call39_v0 : Ref sig .tc := ⟨.hbm, 1815, rfl⟩
abbrev main_call39_v1 : Ref sig .tc := ⟨.hbm, 1816, rfl⟩
abbrev main_call39_v2 : Ref sig .tc := ⟨.hbm, 1817, rfl⟩
abbrev main_call39_v3 : Ref sig .tc := ⟨.hbm, 1818, rfl⟩
abbrev main_call39_v4 : Ref sig .tc := ⟨.hbm, 1819, rfl⟩
abbrev main_v1206 : Ref sig .tc := ⟨.hbm, 1820, rfl⟩
abbrev main_c_384 : Ref sig .tc := ⟨.hbm, 1821, rfl⟩
abbrev main_v1207 : Ref sig .tc := ⟨.hbm, 1822, rfl⟩
abbrev main_v1208 : Ref sig .tc := ⟨.hbm, 1823, rfl⟩
abbrev main_c_385 : Ref sig .tc := ⟨.hbm, 1824, rfl⟩
abbrev main_v1209 : Ref sig .tc := ⟨.hbm, 1825, rfl⟩
abbrev main_v1210 : Ref sig .tc := ⟨.hbm, 1826, rfl⟩
abbrev main_v1211 : Ref sig .tc := ⟨.hbm, 1827, rfl⟩
abbrev main_c_386 : Ref sig .tc := ⟨.hbm, 1828, rfl⟩
abbrev main_v1212 : Ref sig .tc := ⟨.hbm, 1829, rfl⟩
abbrev main_v1213 : Ref sig .tc := ⟨.hbm, 1830, rfl⟩
abbrev main_c_387 : Ref sig .tc := ⟨.hbm, 1831, rfl⟩
abbrev main_v1214 : Ref sig .tc := ⟨.hbm, 1832, rfl⟩
abbrev main_v1215 : Ref sig .tc := ⟨.hbm, 1833, rfl⟩
abbrev main_v1216 : Ref sig .tc := ⟨.hbm, 1834, rfl⟩
abbrev main_v1217 : Ref sig .tc := ⟨.hbm, 1835, rfl⟩
abbrev main_v1218 : Ref sig .tc := ⟨.hbm, 1836, rfl⟩
abbrev main_v1219 : Ref sig .tc := ⟨.hbm, 1837, rfl⟩
abbrev main_v1220 : Ref sig .tc := ⟨.hbm, 1838, rfl⟩
abbrev main_c_388 : Ref sig .tc := ⟨.hbm, 1839, rfl⟩
abbrev main_v1221 : Ref sig .tc := ⟨.hbm, 1840, rfl⟩
abbrev main_v1222 : Ref sig .tc := ⟨.hbm, 1841, rfl⟩
abbrev main_c_389 : Ref sig .tc := ⟨.hbm, 1842, rfl⟩
abbrev main_v1223 : Ref sig .tc := ⟨.hbm, 1843, rfl⟩
abbrev main_v1224 : Ref sig .tc := ⟨.hbm, 1844, rfl⟩
abbrev main_v1225 : Ref sig .tc := ⟨.hbm, 1845, rfl⟩
abbrev main_c_390 : Ref sig .tc := ⟨.hbm, 1846, rfl⟩
abbrev main_v1226 : Ref sig .tc := ⟨.hbm, 1847, rfl⟩
abbrev main_v1227 : Ref sig .tc := ⟨.hbm, 1848, rfl⟩
abbrev main_c_391 : Ref sig .tc := ⟨.hbm, 1849, rfl⟩
abbrev main_v1228 : Ref sig .tc := ⟨.hbm, 1850, rfl⟩
abbrev main_v1229 : Ref sig .tc := ⟨.hbm, 1851, rfl⟩
abbrev main_v1230 : Ref sig .tc := ⟨.hbm, 1852, rfl⟩
abbrev main_v1231 : Ref sig .tc := ⟨.hbm, 1853, rfl⟩
abbrev main_v1232 : Ref sig .tc := ⟨.hbm, 1854, rfl⟩
abbrev main_v1233 : Ref sig .tc := ⟨.hbm, 1855, rfl⟩
abbrev main_v1234 : Ref sig .tc := ⟨.hbm, 1856, rfl⟩
abbrev main_c_392 : Ref sig .tc := ⟨.hbm, 1857, rfl⟩
abbrev main_v1235 : Ref sig .tc := ⟨.hbm, 1858, rfl⟩
abbrev main_v1236 : Ref sig .tc := ⟨.hbm, 1859, rfl⟩
abbrev main_c_393 : Ref sig .tc := ⟨.hbm, 1860, rfl⟩
abbrev main_v1237 : Ref sig .tc := ⟨.hbm, 1861, rfl⟩
abbrev main_v1238 : Ref sig .tc := ⟨.hbm, 1862, rfl⟩
abbrev main_v1239 : Ref sig .tc := ⟨.hbm, 1863, rfl⟩
abbrev main_c_394 : Ref sig .tc := ⟨.hbm, 1864, rfl⟩
abbrev main_v1240 : Ref sig .tc := ⟨.hbm, 1865, rfl⟩
abbrev main_v1241 : Ref sig .tc := ⟨.hbm, 1866, rfl⟩
abbrev main_c_395 : Ref sig .tc := ⟨.hbm, 1867, rfl⟩
abbrev main_v1242 : Ref sig .tc := ⟨.hbm, 1868, rfl⟩
abbrev main_v1243 : Ref sig .tc := ⟨.hbm, 1869, rfl⟩
abbrev main_v1244 : Ref sig .tc := ⟨.hbm, 1870, rfl⟩
abbrev main_v1245 : Ref sig .tc := ⟨.hbm, 1871, rfl⟩
abbrev main_v1246 : Ref sig .tc := ⟨.hbm, 1872, rfl⟩
abbrev main_v1247 : Ref sig .tc := ⟨.hbm, 1873, rfl⟩
abbrev main_v1248 : Ref sig .tc := ⟨.hbm, 1874, rfl⟩
abbrev main_c_396 : Ref sig .tc := ⟨.hbm, 1875, rfl⟩
abbrev main_v1249 : Ref sig .tc := ⟨.hbm, 1876, rfl⟩
abbrev main_v1250 : Ref sig .tc := ⟨.hbm, 1877, rfl⟩
abbrev main_c_397 : Ref sig .tc := ⟨.hbm, 1878, rfl⟩
abbrev main_v1251 : Ref sig .tc := ⟨.hbm, 1879, rfl⟩
abbrev main_v1252 : Ref sig .tc := ⟨.hbm, 1880, rfl⟩
abbrev main_v1253 : Ref sig .tc := ⟨.hbm, 1881, rfl⟩
abbrev main_c_398 : Ref sig .tc := ⟨.hbm, 1882, rfl⟩
abbrev main_v1254 : Ref sig .tc := ⟨.hbm, 1883, rfl⟩
abbrev main_v1255 : Ref sig .tc := ⟨.hbm, 1884, rfl⟩
abbrev main_c_399 : Ref sig .tc := ⟨.hbm, 1885, rfl⟩
abbrev main_v1256 : Ref sig .tc := ⟨.hbm, 1886, rfl⟩
abbrev main_v1257 : Ref sig .tc := ⟨.hbm, 1887, rfl⟩
abbrev main_v1258 : Ref sig .tc := ⟨.hbm, 1888, rfl⟩
abbrev main_v1259 : Ref sig .tc := ⟨.hbm, 1889, rfl⟩
abbrev main_v1260 : Ref sig .tc := ⟨.hbm, 1890, rfl⟩
abbrev main_v1261 : Ref sig .tc := ⟨.hbm, 1891, rfl⟩
abbrev main_v1262 : Ref sig .tc := ⟨.hbm, 1892, rfl⟩
abbrev main_cst_400 : Ref sig .tc := ⟨.hbm, 1893, rfl⟩
abbrev main_v1263 : Ref sig .tc := ⟨.hbm, 1894, rfl⟩
abbrev main_v1264 : Ref sig .tc := ⟨.hbm, 1895, rfl⟩
abbrev main_v1265 : Ref sig .tc := ⟨.hbm, 1896, rfl⟩
abbrev main_v1266 : Ref sig .tc := ⟨.hbm, 1897, rfl⟩
abbrev main_v1267 : Ref sig .tc := ⟨.hbm, 1898, rfl⟩
abbrev main_cst_401 : Ref sig .tc := ⟨.hbm, 1899, rfl⟩
abbrev main_v1268 : Ref sig .tc := ⟨.hbm, 1900, rfl⟩
abbrev main_v1269 : Ref sig .tc := ⟨.hbm, 1901, rfl⟩
abbrev main_v1270 : Ref sig .tc := ⟨.hbm, 1902, rfl⟩
abbrev main_v1271 : Ref sig .tc := ⟨.hbm, 1903, rfl⟩
abbrev main_v1272 : Ref sig .tc := ⟨.hbm, 1904, rfl⟩
abbrev main_v1273 : Ref sig .tc := ⟨.hbm, 1905, rfl⟩
abbrev main_v1274 : Ref sig .tc := ⟨.hbm, 1906, rfl⟩
abbrev main_v1275 : Ref sig .tc := ⟨.hbm, 1907, rfl⟩
abbrev main_cst_402 : Ref sig .tc := ⟨.hbm, 1908, rfl⟩
abbrev main_v1276 : Ref sig .tc := ⟨.hbm, 1909, rfl⟩
abbrev main_v1277 : Ref sig .tc := ⟨.hbm, 1910, rfl⟩
abbrev main_v1278 : Ref sig .tc := ⟨.hbm, 1911, rfl⟩
abbrev main_v1279 : Ref sig .tc := ⟨.hbm, 1912, rfl⟩
abbrev main_v1280 : Ref sig .tc := ⟨.hbm, 1913, rfl⟩
abbrev main_v1281 : Ref sig .tc := ⟨.hbm, 1914, rfl⟩
abbrev main_cst_403 : Ref sig .tc := ⟨.hbm, 1915, rfl⟩
abbrev main_v1282 : Ref sig .tc := ⟨.hbm, 1916, rfl⟩
abbrev main_v1283 : Ref sig .tc := ⟨.hbm, 1917, rfl⟩
abbrev main_v1284 : Ref sig .tc := ⟨.hbm, 1918, rfl⟩
abbrev main_v1285 : Ref sig .tc := ⟨.hbm, 1919, rfl⟩
abbrev main_v1286 : Ref sig .tc := ⟨.hbm, 1920, rfl⟩
abbrev main_v1287 : Ref sig .tc := ⟨.hbm, 1921, rfl⟩
abbrev main_v1288 : Ref sig .tc := ⟨.hbm, 1922, rfl⟩
abbrev main_v1289 : Ref sig .tc := ⟨.hbm, 1923, rfl⟩
abbrev main_v1290 : Ref sig .tc := ⟨.hbm, 1924, rfl⟩
abbrev main_v1291 : Ref sig .tc := ⟨.hbm, 1925, rfl⟩
abbrev main_v1292 : Ref sig .tc := ⟨.hbm, 1926, rfl⟩
abbrev main_v1293 : Ref sig .tc := ⟨.hbm, 1927, rfl⟩
abbrev main_v1294 : Ref sig .tc := ⟨.hbm, 1928, rfl⟩
abbrev main_v1295 : Ref sig .tc := ⟨.hbm, 1929, rfl⟩
abbrev main_v1296 : Ref sig .tc := ⟨.hbm, 1930, rfl⟩
abbrev main_v1297 : Ref sig .tc := ⟨.hbm, 1931, rfl⟩
abbrev main_v1298 : Ref sig .tc := ⟨.hbm, 1932, rfl⟩
abbrev main_c_404 : Ref sig .tc := ⟨.hbm, 1933, rfl⟩
abbrev main_v1299 : Ref sig .tc := ⟨.hbm, 1934, rfl⟩
abbrev main_v1300 : Ref sig .tc := ⟨.hbm, 1935, rfl⟩
abbrev main_c_405 : Ref sig .tc := ⟨.hbm, 1936, rfl⟩
abbrev main_v1301 : Ref sig .tc := ⟨.hbm, 1937, rfl⟩
abbrev main_v1302 : Ref sig .tc := ⟨.hbm, 1938, rfl⟩
abbrev main_v1303 : Ref sig .tc := ⟨.hbm, 1939, rfl⟩
abbrev main_v1304 : Ref sig .tc := ⟨.hbm, 1940, rfl⟩
abbrev main_v1305 : Ref sig .tc := ⟨.hbm, 1941, rfl⟩
abbrev main_v1306 : Ref sig .tc := ⟨.hbm, 1942, rfl⟩
abbrev main_v1307 : Ref sig .tc := ⟨.hbm, 1943, rfl⟩
abbrev main_cst_406 : Ref sig .tc := ⟨.hbm, 1944, rfl⟩
abbrev main_v1308 : Ref sig .tc := ⟨.hbm, 1945, rfl⟩
abbrev main_v1309 : Ref sig .tc := ⟨.hbm, 1946, rfl⟩
abbrev main_cst_407 : Ref sig .tc := ⟨.hbm, 1947, rfl⟩
abbrev main_v1310 : Ref sig .tc := ⟨.hbm, 1948, rfl⟩
abbrev main_v1311 : Ref sig .tc := ⟨.hbm, 1949, rfl⟩
abbrev main_cst_408 : Ref sig .tc := ⟨.hbm, 1950, rfl⟩
abbrev main_v1312 : Ref sig .tc := ⟨.hbm, 1951, rfl⟩
abbrev main_v1313 : Ref sig .tc := ⟨.hbm, 1952, rfl⟩
abbrev main_v1314 : Ref sig .tc := ⟨.hbm, 1953, rfl⟩
abbrev main_v1315 : Ref sig .tc := ⟨.hbm, 1954, rfl⟩
abbrev main_cst_409 : Ref sig .tc := ⟨.hbm, 1955, rfl⟩
abbrev main_v1316 : Ref sig .tc := ⟨.hbm, 1956, rfl⟩
abbrev main_v1317 : Ref sig .tc := ⟨.hbm, 1957, rfl⟩
abbrev main_cst_410 : Ref sig .tc := ⟨.hbm, 1958, rfl⟩
abbrev main_v1318 : Ref sig .tc := ⟨.hbm, 1959, rfl⟩
abbrev main_v1319 : Ref sig .tc := ⟨.hbm, 1960, rfl⟩
abbrev main_cst_411 : Ref sig .tc := ⟨.hbm, 1961, rfl⟩
abbrev main_v1320 : Ref sig .tc := ⟨.hbm, 1962, rfl⟩
abbrev main_v1321 : Ref sig .tc := ⟨.hbm, 1963, rfl⟩
abbrev main_v1322 : Ref sig .tc := ⟨.hbm, 1964, rfl⟩
abbrev main_v1323 : Ref sig .tc := ⟨.hbm, 1965, rfl⟩
abbrev main_v1324 : Ref sig .tc := ⟨.hbm, 1966, rfl⟩
abbrev main_v1325 : Ref sig .tc := ⟨.hbm, 1967, rfl⟩
abbrev main_v1326 : Ref sig .tc := ⟨.hbm, 1968, rfl⟩
abbrev main_c_412 : Ref sig .tc := ⟨.hbm, 1969, rfl⟩
abbrev main_c_413 : Ref sig .tc := ⟨.hbm, 1970, rfl⟩
abbrev main_call40_v0 : Ref sig .tc := ⟨.hbm, 1971, rfl⟩
abbrev main_call40_v1 : Ref sig .tc := ⟨.hbm, 1972, rfl⟩
abbrev main_call40_v2 : Ref sig .tc := ⟨.hbm, 1973, rfl⟩
abbrev main_call40_v3 : Ref sig .tc := ⟨.hbm, 1974, rfl⟩
abbrev main_call40_v4 : Ref sig .tc := ⟨.hbm, 1975, rfl⟩
abbrev main_v1327 : Ref sig .tc := ⟨.hbm, 1976, rfl⟩
abbrev main_c_414 : Ref sig .tc := ⟨.hbm, 1977, rfl⟩
abbrev main_v1328 : Ref sig .tc := ⟨.hbm, 1978, rfl⟩
abbrev main_v1329 : Ref sig .tc := ⟨.hbm, 1979, rfl⟩
abbrev main_c_415 : Ref sig .tc := ⟨.hbm, 1980, rfl⟩
abbrev main_c_416 : Ref sig .tc := ⟨.hbm, 1981, rfl⟩
abbrev main_call41_v0 : Ref sig .tc := ⟨.hbm, 1982, rfl⟩
abbrev main_call41_v1 : Ref sig .tc := ⟨.hbm, 1983, rfl⟩
abbrev main_call41_v2 : Ref sig .tc := ⟨.hbm, 1984, rfl⟩
abbrev main_call41_v3 : Ref sig .tc := ⟨.hbm, 1985, rfl⟩
abbrev main_call41_v4 : Ref sig .tc := ⟨.hbm, 1986, rfl⟩
abbrev main_v1330 : Ref sig .tc := ⟨.hbm, 1987, rfl⟩
abbrev main_v1331 : Ref sig .tc := ⟨.hbm, 1988, rfl⟩
abbrev main_c_417 : Ref sig .tc := ⟨.hbm, 1989, rfl⟩
abbrev main_c_418 : Ref sig .tc := ⟨.hbm, 1990, rfl⟩
abbrev main_call42_v0 : Ref sig .tc := ⟨.hbm, 1991, rfl⟩
abbrev main_call42_v1 : Ref sig .tc := ⟨.hbm, 1992, rfl⟩
abbrev main_call42_v2 : Ref sig .tc := ⟨.hbm, 1993, rfl⟩
abbrev main_call42_v3 : Ref sig .tc := ⟨.hbm, 1994, rfl⟩
abbrev main_call42_v4 : Ref sig .tc := ⟨.hbm, 1995, rfl⟩
abbrev main_v1332 : Ref sig .tc := ⟨.hbm, 1996, rfl⟩
abbrev main_c_419 : Ref sig .tc := ⟨.hbm, 1997, rfl⟩
abbrev main_v1333 : Ref sig .tc := ⟨.hbm, 1998, rfl⟩
abbrev main_v1334 : Ref sig .tc := ⟨.hbm, 1999, rfl⟩
abbrev main_c_420 : Ref sig .tc := ⟨.hbm, 2000, rfl⟩
abbrev main_c_421 : Ref sig .tc := ⟨.hbm, 2001, rfl⟩
abbrev main_call43_v0 : Ref sig .tc := ⟨.hbm, 2002, rfl⟩
abbrev main_call43_v1 : Ref sig .tc := ⟨.hbm, 2003, rfl⟩
abbrev main_call43_v2 : Ref sig .tc := ⟨.hbm, 2004, rfl⟩
abbrev main_call43_v3 : Ref sig .tc := ⟨.hbm, 2005, rfl⟩
abbrev main_call43_v4 : Ref sig .tc := ⟨.hbm, 2006, rfl⟩
abbrev main_v1335 : Ref sig .tc := ⟨.hbm, 2007, rfl⟩
abbrev main_c_422 : Ref sig .tc := ⟨.hbm, 2008, rfl⟩
abbrev main_v1336 : Ref sig .tc := ⟨.hbm, 2009, rfl⟩
abbrev main_v1337 : Ref sig .tc := ⟨.hbm, 2010, rfl⟩
abbrev main_c_423 : Ref sig .tc := ⟨.hbm, 2011, rfl⟩
abbrev main_v1338 : Ref sig .tc := ⟨.hbm, 2012, rfl⟩
abbrev main_v1339 : Ref sig .tc := ⟨.hbm, 2013, rfl⟩
abbrev main_v1340 : Ref sig .tc := ⟨.hbm, 2014, rfl⟩
abbrev main_c_424 : Ref sig .tc := ⟨.hbm, 2015, rfl⟩
abbrev main_v1341 : Ref sig .tc := ⟨.hbm, 2016, rfl⟩
abbrev main_v1342 : Ref sig .tc := ⟨.hbm, 2017, rfl⟩
abbrev main_c_425 : Ref sig .tc := ⟨.hbm, 2018, rfl⟩
abbrev main_v1343 : Ref sig .tc := ⟨.hbm, 2019, rfl⟩
abbrev main_v1344 : Ref sig .tc := ⟨.hbm, 2020, rfl⟩
abbrev main_v1345 : Ref sig .tc := ⟨.hbm, 2021, rfl⟩
abbrev main_v1346 : Ref sig .tc := ⟨.hbm, 2022, rfl⟩
abbrev main_v1347 : Ref sig .tc := ⟨.hbm, 2023, rfl⟩
abbrev main_v1348 : Ref sig .tc := ⟨.hbm, 2024, rfl⟩
abbrev main_v1349 : Ref sig .tc := ⟨.hbm, 2025, rfl⟩
abbrev main_c_426 : Ref sig .tc := ⟨.hbm, 2026, rfl⟩
abbrev main_v1350 : Ref sig .tc := ⟨.hbm, 2027, rfl⟩
abbrev main_v1351 : Ref sig .tc := ⟨.hbm, 2028, rfl⟩
abbrev main_c_427 : Ref sig .tc := ⟨.hbm, 2029, rfl⟩
abbrev main_v1352 : Ref sig .tc := ⟨.hbm, 2030, rfl⟩
abbrev main_v1353 : Ref sig .tc := ⟨.hbm, 2031, rfl⟩
abbrev main_v1354 : Ref sig .tc := ⟨.hbm, 2032, rfl⟩
abbrev main_c_428 : Ref sig .tc := ⟨.hbm, 2033, rfl⟩
abbrev main_v1355 : Ref sig .tc := ⟨.hbm, 2034, rfl⟩
abbrev main_v1356 : Ref sig .tc := ⟨.hbm, 2035, rfl⟩
abbrev main_c_429 : Ref sig .tc := ⟨.hbm, 2036, rfl⟩
abbrev main_v1357 : Ref sig .tc := ⟨.hbm, 2037, rfl⟩
abbrev main_v1358 : Ref sig .tc := ⟨.hbm, 2038, rfl⟩
abbrev main_v1359 : Ref sig .tc := ⟨.hbm, 2039, rfl⟩
abbrev main_v1360 : Ref sig .tc := ⟨.hbm, 2040, rfl⟩
abbrev main_v1361 : Ref sig .tc := ⟨.hbm, 2041, rfl⟩
abbrev main_v1362 : Ref sig .tc := ⟨.hbm, 2042, rfl⟩
abbrev main_v1363 : Ref sig .tc := ⟨.hbm, 2043, rfl⟩
abbrev main_c_430 : Ref sig .tc := ⟨.hbm, 2044, rfl⟩
abbrev main_v1364 : Ref sig .tc := ⟨.hbm, 2045, rfl⟩
abbrev main_v1365 : Ref sig .tc := ⟨.hbm, 2046, rfl⟩
abbrev main_c_431 : Ref sig .tc := ⟨.hbm, 2047, rfl⟩
abbrev main_v1366 : Ref sig .tc := ⟨.hbm, 2048, rfl⟩
abbrev main_v1367 : Ref sig .tc := ⟨.hbm, 2049, rfl⟩
abbrev main_v1368 : Ref sig .tc := ⟨.hbm, 2050, rfl⟩
abbrev main_c_432 : Ref sig .tc := ⟨.hbm, 2051, rfl⟩
abbrev main_v1369 : Ref sig .tc := ⟨.hbm, 2052, rfl⟩
abbrev main_v1370 : Ref sig .tc := ⟨.hbm, 2053, rfl⟩
abbrev main_c_433 : Ref sig .tc := ⟨.hbm, 2054, rfl⟩
abbrev main_v1371 : Ref sig .tc := ⟨.hbm, 2055, rfl⟩
abbrev main_v1372 : Ref sig .tc := ⟨.hbm, 2056, rfl⟩
abbrev main_v1373 : Ref sig .tc := ⟨.hbm, 2057, rfl⟩
abbrev main_v1374 : Ref sig .tc := ⟨.hbm, 2058, rfl⟩
abbrev main_v1375 : Ref sig .tc := ⟨.hbm, 2059, rfl⟩
abbrev main_v1376 : Ref sig .tc := ⟨.hbm, 2060, rfl⟩
abbrev main_v1377 : Ref sig .tc := ⟨.hbm, 2061, rfl⟩
abbrev main_c_434 : Ref sig .tc := ⟨.hbm, 2062, rfl⟩
abbrev main_v1378 : Ref sig .tc := ⟨.hbm, 2063, rfl⟩
abbrev main_v1379 : Ref sig .tc := ⟨.hbm, 2064, rfl⟩
abbrev main_c_435 : Ref sig .tc := ⟨.hbm, 2065, rfl⟩
abbrev main_v1380 : Ref sig .tc := ⟨.hbm, 2066, rfl⟩
abbrev main_v1381 : Ref sig .tc := ⟨.hbm, 2067, rfl⟩
abbrev main_v1382 : Ref sig .tc := ⟨.hbm, 2068, rfl⟩
abbrev main_c_436 : Ref sig .tc := ⟨.hbm, 2069, rfl⟩
abbrev main_v1383 : Ref sig .tc := ⟨.hbm, 2070, rfl⟩
abbrev main_v1384 : Ref sig .tc := ⟨.hbm, 2071, rfl⟩
abbrev main_c_437 : Ref sig .tc := ⟨.hbm, 2072, rfl⟩
abbrev main_v1385 : Ref sig .tc := ⟨.hbm, 2073, rfl⟩
abbrev main_v1386 : Ref sig .tc := ⟨.hbm, 2074, rfl⟩
abbrev main_v1387 : Ref sig .tc := ⟨.hbm, 2075, rfl⟩
abbrev main_v1388 : Ref sig .tc := ⟨.hbm, 2076, rfl⟩
abbrev main_v1389 : Ref sig .tc := ⟨.hbm, 2077, rfl⟩
abbrev main_v1390 : Ref sig .tc := ⟨.hbm, 2078, rfl⟩
abbrev main_v1391 : Ref sig .tc := ⟨.hbm, 2079, rfl⟩
abbrev main_cst_438 : Ref sig .tc := ⟨.hbm, 2080, rfl⟩
abbrev main_v1392 : Ref sig .tc := ⟨.hbm, 2081, rfl⟩
abbrev main_v1393 : Ref sig .tc := ⟨.hbm, 2082, rfl⟩
abbrev main_v1394 : Ref sig .tc := ⟨.hbm, 2083, rfl⟩
abbrev main_v1395 : Ref sig .tc := ⟨.hbm, 2084, rfl⟩
abbrev main_v1396 : Ref sig .tc := ⟨.hbm, 2085, rfl⟩
abbrev main_cst_439 : Ref sig .tc := ⟨.hbm, 2086, rfl⟩
abbrev main_v1397 : Ref sig .tc := ⟨.hbm, 2087, rfl⟩
abbrev main_v1398 : Ref sig .tc := ⟨.hbm, 2088, rfl⟩
abbrev main_v1399 : Ref sig .tc := ⟨.hbm, 2089, rfl⟩
abbrev main_v1400 : Ref sig .tc := ⟨.hbm, 2090, rfl⟩
abbrev main_v1401 : Ref sig .tc := ⟨.hbm, 2091, rfl⟩
abbrev main_v1402 : Ref sig .tc := ⟨.hbm, 2092, rfl⟩
abbrev main_v1403 : Ref sig .tc := ⟨.hbm, 2093, rfl⟩
abbrev main_v1404 : Ref sig .tc := ⟨.hbm, 2094, rfl⟩
abbrev main_cst_440 : Ref sig .tc := ⟨.hbm, 2095, rfl⟩
abbrev main_v1405 : Ref sig .tc := ⟨.hbm, 2096, rfl⟩
abbrev main_v1406 : Ref sig .tc := ⟨.hbm, 2097, rfl⟩
abbrev main_v1407 : Ref sig .tc := ⟨.hbm, 2098, rfl⟩
abbrev main_v1408 : Ref sig .tc := ⟨.hbm, 2099, rfl⟩
abbrev main_v1409 : Ref sig .tc := ⟨.hbm, 2100, rfl⟩
abbrev main_v1410 : Ref sig .tc := ⟨.hbm, 2101, rfl⟩
abbrev main_cst_441 : Ref sig .tc := ⟨.hbm, 2102, rfl⟩
abbrev main_v1411 : Ref sig .tc := ⟨.hbm, 2103, rfl⟩
abbrev main_v1412 : Ref sig .tc := ⟨.hbm, 2104, rfl⟩
abbrev main_v1413 : Ref sig .tc := ⟨.hbm, 2105, rfl⟩
abbrev main_v1414 : Ref sig .tc := ⟨.hbm, 2106, rfl⟩
abbrev main_v1415 : Ref sig .tc := ⟨.hbm, 2107, rfl⟩
abbrev main_v1416 : Ref sig .tc := ⟨.hbm, 2108, rfl⟩
abbrev main_v1417 : Ref sig .tc := ⟨.hbm, 2109, rfl⟩
abbrev main_v1418 : Ref sig .tc := ⟨.hbm, 2110, rfl⟩
abbrev main_v1419 : Ref sig .tc := ⟨.hbm, 2111, rfl⟩
abbrev main_v1420 : Ref sig .tc := ⟨.hbm, 2112, rfl⟩
abbrev main_v1421 : Ref sig .tc := ⟨.hbm, 2113, rfl⟩
abbrev main_v1422 : Ref sig .tc := ⟨.hbm, 2114, rfl⟩
abbrev main_v1423 : Ref sig .tc := ⟨.hbm, 2115, rfl⟩
abbrev main_v1424 : Ref sig .tc := ⟨.hbm, 2116, rfl⟩
abbrev main_v1425 : Ref sig .tc := ⟨.hbm, 2117, rfl⟩
abbrev main_v1426 : Ref sig .tc := ⟨.hbm, 2118, rfl⟩
abbrev main_v1427 : Ref sig .tc := ⟨.hbm, 2119, rfl⟩
abbrev main_c_442 : Ref sig .tc := ⟨.hbm, 2120, rfl⟩
abbrev main_v1428 : Ref sig .tc := ⟨.hbm, 2121, rfl⟩
abbrev main_v1429 : Ref sig .tc := ⟨.hbm, 2122, rfl⟩
abbrev main_c_443 : Ref sig .tc := ⟨.hbm, 2123, rfl⟩
abbrev main_v1430 : Ref sig .tc := ⟨.hbm, 2124, rfl⟩
abbrev main_v1431 : Ref sig .tc := ⟨.hbm, 2125, rfl⟩
abbrev main_v1432 : Ref sig .tc := ⟨.hbm, 2126, rfl⟩
abbrev main_v1433 : Ref sig .tc := ⟨.hbm, 2127, rfl⟩
abbrev main_v1434 : Ref sig .tc := ⟨.hbm, 2128, rfl⟩
abbrev main_v1435 : Ref sig .tc := ⟨.hbm, 2129, rfl⟩
abbrev main_v1436 : Ref sig .tc := ⟨.hbm, 2130, rfl⟩
abbrev main_cst_444 : Ref sig .tc := ⟨.hbm, 2131, rfl⟩
abbrev main_v1437 : Ref sig .tc := ⟨.hbm, 2132, rfl⟩
abbrev main_v1438 : Ref sig .tc := ⟨.hbm, 2133, rfl⟩
abbrev main_cst_445 : Ref sig .tc := ⟨.hbm, 2134, rfl⟩
abbrev main_v1439 : Ref sig .tc := ⟨.hbm, 2135, rfl⟩
abbrev main_v1440 : Ref sig .tc := ⟨.hbm, 2136, rfl⟩
abbrev main_cst_446 : Ref sig .tc := ⟨.hbm, 2137, rfl⟩
abbrev main_v1441 : Ref sig .tc := ⟨.hbm, 2138, rfl⟩
abbrev main_v1442 : Ref sig .tc := ⟨.hbm, 2139, rfl⟩
abbrev main_v1443 : Ref sig .tc := ⟨.hbm, 2140, rfl⟩
abbrev main_v1444 : Ref sig .tc := ⟨.hbm, 2141, rfl⟩
abbrev main_cst_447 : Ref sig .tc := ⟨.hbm, 2142, rfl⟩
abbrev main_v1445 : Ref sig .tc := ⟨.hbm, 2143, rfl⟩
abbrev main_v1446 : Ref sig .tc := ⟨.hbm, 2144, rfl⟩
abbrev main_cst_448 : Ref sig .tc := ⟨.hbm, 2145, rfl⟩
abbrev main_v1447 : Ref sig .tc := ⟨.hbm, 2146, rfl⟩
abbrev main_v1448 : Ref sig .tc := ⟨.hbm, 2147, rfl⟩
abbrev main_cst_449 : Ref sig .tc := ⟨.hbm, 2148, rfl⟩
abbrev main_v1449 : Ref sig .tc := ⟨.hbm, 2149, rfl⟩
abbrev main_v1450 : Ref sig .tc := ⟨.hbm, 2150, rfl⟩
abbrev main_v1451 : Ref sig .tc := ⟨.hbm, 2151, rfl⟩
abbrev main_v1452 : Ref sig .tc := ⟨.hbm, 2152, rfl⟩
abbrev main_v1453 : Ref sig .tc := ⟨.hbm, 2153, rfl⟩
abbrev main_v1454 : Ref sig .tc := ⟨.hbm, 2154, rfl⟩
abbrev main_v1455 : Ref sig .tc := ⟨.hbm, 2155, rfl⟩
abbrev main_c_450 : Ref sig .tc := ⟨.hbm, 2156, rfl⟩
abbrev main_c_451 : Ref sig .tc := ⟨.hbm, 2157, rfl⟩
abbrev main_call44_v0 : Ref sig .tc := ⟨.hbm, 2158, rfl⟩
abbrev main_call44_v1 : Ref sig .tc := ⟨.hbm, 2159, rfl⟩
abbrev main_call44_v2 : Ref sig .tc := ⟨.hbm, 2160, rfl⟩
abbrev main_call44_v3 : Ref sig .tc := ⟨.hbm, 2161, rfl⟩
abbrev main_call44_v4 : Ref sig .tc := ⟨.hbm, 2162, rfl⟩
abbrev main_v1456 : Ref sig .tc := ⟨.hbm, 2163, rfl⟩
abbrev main_c_452 : Ref sig .tc := ⟨.hbm, 2164, rfl⟩
abbrev main_v1457 : Ref sig .tc := ⟨.hbm, 2165, rfl⟩
abbrev main_v1458 : Ref sig .tc := ⟨.hbm, 2166, rfl⟩
abbrev main_c_453 : Ref sig .tc := ⟨.hbm, 2167, rfl⟩
abbrev main_c_454 : Ref sig .tc := ⟨.hbm, 2168, rfl⟩
abbrev main_call45_v0 : Ref sig .tc := ⟨.hbm, 2169, rfl⟩
abbrev main_call45_v1 : Ref sig .tc := ⟨.hbm, 2170, rfl⟩
abbrev main_call45_v2 : Ref sig .tc := ⟨.hbm, 2171, rfl⟩
abbrev main_call45_v3 : Ref sig .tc := ⟨.hbm, 2172, rfl⟩
abbrev main_call45_v4 : Ref sig .tc := ⟨.hbm, 2173, rfl⟩
abbrev main_v1459 : Ref sig .tc := ⟨.hbm, 2174, rfl⟩
abbrev main_v1460 : Ref sig .tc := ⟨.hbm, 2175, rfl⟩
abbrev main_c_455 : Ref sig .tc := ⟨.hbm, 2176, rfl⟩
abbrev main_c_456 : Ref sig .tc := ⟨.hbm, 2177, rfl⟩
abbrev main_call46_v0 : Ref sig .tc := ⟨.hbm, 2178, rfl⟩
abbrev main_call46_v1 : Ref sig .tc := ⟨.hbm, 2179, rfl⟩
abbrev main_call46_v2 : Ref sig .tc := ⟨.hbm, 2180, rfl⟩
abbrev main_call46_v3 : Ref sig .tc := ⟨.hbm, 2181, rfl⟩
abbrev main_call46_v4 : Ref sig .tc := ⟨.hbm, 2182, rfl⟩
abbrev main_v1461 : Ref sig .tc := ⟨.hbm, 2183, rfl⟩
abbrev main_c_457 : Ref sig .tc := ⟨.hbm, 2184, rfl⟩
abbrev main_v1462 : Ref sig .tc := ⟨.hbm, 2185, rfl⟩
abbrev main_v1463 : Ref sig .tc := ⟨.hbm, 2186, rfl⟩
abbrev main_c_458 : Ref sig .tc := ⟨.hbm, 2187, rfl⟩
abbrev main_c_459 : Ref sig .tc := ⟨.hbm, 2188, rfl⟩
abbrev main_call47_v0 : Ref sig .tc := ⟨.hbm, 2189, rfl⟩
abbrev main_call47_v1 : Ref sig .tc := ⟨.hbm, 2190, rfl⟩
abbrev main_call47_v2 : Ref sig .tc := ⟨.hbm, 2191, rfl⟩
abbrev main_call47_v3 : Ref sig .tc := ⟨.hbm, 2192, rfl⟩
abbrev main_call47_v4 : Ref sig .tc := ⟨.hbm, 2193, rfl⟩
abbrev main_v1464 : Ref sig .tc := ⟨.hbm, 2194, rfl⟩
abbrev main_c_460 : Ref sig .tc := ⟨.hbm, 2195, rfl⟩
abbrev main_v1465 : Ref sig .tc := ⟨.hbm, 2196, rfl⟩
abbrev main_v1466 : Ref sig .tc := ⟨.hbm, 2197, rfl⟩
abbrev main_c_461 : Ref sig .tc := ⟨.hbm, 2198, rfl⟩
abbrev main_v1467 : Ref sig .tc := ⟨.hbm, 2199, rfl⟩
abbrev main_v1468 : Ref sig .tc := ⟨.hbm, 2200, rfl⟩
abbrev main_v1469 : Ref sig .tc := ⟨.hbm, 2201, rfl⟩
abbrev main_c_462 : Ref sig .tc := ⟨.hbm, 2202, rfl⟩
abbrev main_v1470 : Ref sig .tc := ⟨.hbm, 2203, rfl⟩
abbrev main_v1471 : Ref sig .tc := ⟨.hbm, 2204, rfl⟩
abbrev main_c_463 : Ref sig .tc := ⟨.hbm, 2205, rfl⟩
abbrev main_v1472 : Ref sig .tc := ⟨.hbm, 2206, rfl⟩
abbrev main_v1473 : Ref sig .tc := ⟨.hbm, 2207, rfl⟩
abbrev main_v1474 : Ref sig .tc := ⟨.hbm, 2208, rfl⟩
abbrev main_v1475 : Ref sig .tc := ⟨.hbm, 2209, rfl⟩
abbrev main_v1476 : Ref sig .tc := ⟨.hbm, 2210, rfl⟩
abbrev main_v1477 : Ref sig .tc := ⟨.hbm, 2211, rfl⟩
abbrev main_v1478 : Ref sig .tc := ⟨.hbm, 2212, rfl⟩
abbrev main_c_464 : Ref sig .tc := ⟨.hbm, 2213, rfl⟩
abbrev main_v1479 : Ref sig .tc := ⟨.hbm, 2214, rfl⟩
abbrev main_v1480 : Ref sig .tc := ⟨.hbm, 2215, rfl⟩
abbrev main_c_465 : Ref sig .tc := ⟨.hbm, 2216, rfl⟩
abbrev main_v1481 : Ref sig .tc := ⟨.hbm, 2217, rfl⟩
abbrev main_v1482 : Ref sig .tc := ⟨.hbm, 2218, rfl⟩
abbrev main_v1483 : Ref sig .tc := ⟨.hbm, 2219, rfl⟩
abbrev main_c_466 : Ref sig .tc := ⟨.hbm, 2220, rfl⟩
abbrev main_v1484 : Ref sig .tc := ⟨.hbm, 2221, rfl⟩
abbrev main_v1485 : Ref sig .tc := ⟨.hbm, 2222, rfl⟩
abbrev main_c_467 : Ref sig .tc := ⟨.hbm, 2223, rfl⟩
abbrev main_v1486 : Ref sig .tc := ⟨.hbm, 2224, rfl⟩
abbrev main_v1487 : Ref sig .tc := ⟨.hbm, 2225, rfl⟩
abbrev main_v1488 : Ref sig .tc := ⟨.hbm, 2226, rfl⟩
abbrev main_v1489 : Ref sig .tc := ⟨.hbm, 2227, rfl⟩
abbrev main_v1490 : Ref sig .tc := ⟨.hbm, 2228, rfl⟩
abbrev main_v1491 : Ref sig .tc := ⟨.hbm, 2229, rfl⟩
abbrev main_v1492 : Ref sig .tc := ⟨.hbm, 2230, rfl⟩
abbrev main_c_468 : Ref sig .tc := ⟨.hbm, 2231, rfl⟩
abbrev main_v1493 : Ref sig .tc := ⟨.hbm, 2232, rfl⟩
abbrev main_v1494 : Ref sig .tc := ⟨.hbm, 2233, rfl⟩
abbrev main_c_469 : Ref sig .tc := ⟨.hbm, 2234, rfl⟩
abbrev main_v1495 : Ref sig .tc := ⟨.hbm, 2235, rfl⟩
abbrev main_v1496 : Ref sig .tc := ⟨.hbm, 2236, rfl⟩
abbrev main_v1497 : Ref sig .tc := ⟨.hbm, 2237, rfl⟩
abbrev main_c_470 : Ref sig .tc := ⟨.hbm, 2238, rfl⟩
abbrev main_v1498 : Ref sig .tc := ⟨.hbm, 2239, rfl⟩
abbrev main_v1499 : Ref sig .tc := ⟨.hbm, 2240, rfl⟩
abbrev main_c_471 : Ref sig .tc := ⟨.hbm, 2241, rfl⟩
abbrev main_v1500 : Ref sig .tc := ⟨.hbm, 2242, rfl⟩
abbrev main_v1501 : Ref sig .tc := ⟨.hbm, 2243, rfl⟩
abbrev main_v1502 : Ref sig .tc := ⟨.hbm, 2244, rfl⟩
abbrev main_v1503 : Ref sig .tc := ⟨.hbm, 2245, rfl⟩
abbrev main_v1504 : Ref sig .tc := ⟨.hbm, 2246, rfl⟩
abbrev main_v1505 : Ref sig .tc := ⟨.hbm, 2247, rfl⟩
abbrev main_v1506 : Ref sig .tc := ⟨.hbm, 2248, rfl⟩
abbrev main_c_472 : Ref sig .tc := ⟨.hbm, 2249, rfl⟩
abbrev main_v1507 : Ref sig .tc := ⟨.hbm, 2250, rfl⟩
abbrev main_v1508 : Ref sig .tc := ⟨.hbm, 2251, rfl⟩
abbrev main_c_473 : Ref sig .tc := ⟨.hbm, 2252, rfl⟩
abbrev main_v1509 : Ref sig .tc := ⟨.hbm, 2253, rfl⟩
abbrev main_v1510 : Ref sig .tc := ⟨.hbm, 2254, rfl⟩
abbrev main_v1511 : Ref sig .tc := ⟨.hbm, 2255, rfl⟩
abbrev main_c_474 : Ref sig .tc := ⟨.hbm, 2256, rfl⟩
abbrev main_v1512 : Ref sig .tc := ⟨.hbm, 2257, rfl⟩
abbrev main_v1513 : Ref sig .tc := ⟨.hbm, 2258, rfl⟩
abbrev main_c_475 : Ref sig .tc := ⟨.hbm, 2259, rfl⟩
abbrev main_v1514 : Ref sig .tc := ⟨.hbm, 2260, rfl⟩
abbrev main_v1515 : Ref sig .tc := ⟨.hbm, 2261, rfl⟩
abbrev main_v1516 : Ref sig .tc := ⟨.hbm, 2262, rfl⟩
abbrev main_v1517 : Ref sig .tc := ⟨.hbm, 2263, rfl⟩
abbrev main_v1518 : Ref sig .tc := ⟨.hbm, 2264, rfl⟩
abbrev main_v1519 : Ref sig .tc := ⟨.hbm, 2265, rfl⟩
abbrev main_v1520 : Ref sig .tc := ⟨.hbm, 2266, rfl⟩
abbrev main_cst_476 : Ref sig .tc := ⟨.hbm, 2267, rfl⟩
abbrev main_v1521 : Ref sig .tc := ⟨.hbm, 2268, rfl⟩
abbrev main_v1522 : Ref sig .tc := ⟨.hbm, 2269, rfl⟩
abbrev main_v1523 : Ref sig .tc := ⟨.hbm, 2270, rfl⟩
abbrev main_v1524 : Ref sig .tc := ⟨.hbm, 2271, rfl⟩
abbrev main_v1525 : Ref sig .tc := ⟨.hbm, 2272, rfl⟩
abbrev main_cst_477 : Ref sig .tc := ⟨.hbm, 2273, rfl⟩
abbrev main_v1526 : Ref sig .tc := ⟨.hbm, 2274, rfl⟩
abbrev main_v1527 : Ref sig .tc := ⟨.hbm, 2275, rfl⟩
abbrev main_v1528 : Ref sig .tc := ⟨.hbm, 2276, rfl⟩
abbrev main_v1529 : Ref sig .tc := ⟨.hbm, 2277, rfl⟩
abbrev main_v1530 : Ref sig .tc := ⟨.hbm, 2278, rfl⟩
abbrev main_v1531 : Ref sig .tc := ⟨.hbm, 2279, rfl⟩
abbrev main_v1532 : Ref sig .tc := ⟨.hbm, 2280, rfl⟩
abbrev main_v1533 : Ref sig .tc := ⟨.hbm, 2281, rfl⟩
abbrev main_cst_478 : Ref sig .tc := ⟨.hbm, 2282, rfl⟩
abbrev main_v1534 : Ref sig .tc := ⟨.hbm, 2283, rfl⟩
abbrev main_v1535 : Ref sig .tc := ⟨.hbm, 2284, rfl⟩
abbrev main_v1536 : Ref sig .tc := ⟨.hbm, 2285, rfl⟩
abbrev main_v1537 : Ref sig .tc := ⟨.hbm, 2286, rfl⟩
abbrev main_v1538 : Ref sig .tc := ⟨.hbm, 2287, rfl⟩
abbrev main_v1539 : Ref sig .tc := ⟨.hbm, 2288, rfl⟩
abbrev main_cst_479 : Ref sig .tc := ⟨.hbm, 2289, rfl⟩
abbrev main_v1540 : Ref sig .tc := ⟨.hbm, 2290, rfl⟩
abbrev main_v1541 : Ref sig .tc := ⟨.hbm, 2291, rfl⟩
abbrev main_v1542 : Ref sig .tc := ⟨.hbm, 2292, rfl⟩
abbrev main_v1543 : Ref sig .tc := ⟨.hbm, 2293, rfl⟩
abbrev main_v1544 : Ref sig .tc := ⟨.hbm, 2294, rfl⟩
abbrev main_v1545 : Ref sig .tc := ⟨.hbm, 2295, rfl⟩
abbrev main_v1546 : Ref sig .tc := ⟨.hbm, 2296, rfl⟩
abbrev main_v1547 : Ref sig .tc := ⟨.hbm, 2297, rfl⟩
abbrev main_v1548 : Ref sig .tc := ⟨.hbm, 2298, rfl⟩
abbrev main_v1549 : Ref sig .tc := ⟨.hbm, 2299, rfl⟩
abbrev main_v1550 : Ref sig .tc := ⟨.hbm, 2300, rfl⟩
abbrev main_v1551 : Ref sig .tc := ⟨.hbm, 2301, rfl⟩
abbrev main_v1552 : Ref sig .tc := ⟨.hbm, 2302, rfl⟩
abbrev main_v1553 : Ref sig .tc := ⟨.hbm, 2303, rfl⟩
abbrev main_v1554 : Ref sig .tc := ⟨.hbm, 2304, rfl⟩
abbrev main_v1555 : Ref sig .tc := ⟨.hbm, 2305, rfl⟩
abbrev main_v1556 : Ref sig .tc := ⟨.hbm, 2306, rfl⟩
abbrev main_c_480 : Ref sig .tc := ⟨.hbm, 2307, rfl⟩
abbrev main_v1557 : Ref sig .tc := ⟨.hbm, 2308, rfl⟩
abbrev main_v1558 : Ref sig .tc := ⟨.hbm, 2309, rfl⟩
abbrev main_c_481 : Ref sig .tc := ⟨.hbm, 2310, rfl⟩
abbrev main_v1559 : Ref sig .tc := ⟨.hbm, 2311, rfl⟩
abbrev main_v1560 : Ref sig .tc := ⟨.hbm, 2312, rfl⟩
abbrev main_v1561 : Ref sig .tc := ⟨.hbm, 2313, rfl⟩
abbrev main_v1562 : Ref sig .tc := ⟨.hbm, 2314, rfl⟩
abbrev main_v1563 : Ref sig .tc := ⟨.hbm, 2315, rfl⟩
abbrev main_v1564 : Ref sig .tc := ⟨.hbm, 2316, rfl⟩
abbrev main_v1565 : Ref sig .tc := ⟨.hbm, 2317, rfl⟩
abbrev main_cst_482 : Ref sig .tc := ⟨.hbm, 2318, rfl⟩
abbrev main_v1566 : Ref sig .tc := ⟨.hbm, 2319, rfl⟩
abbrev main_v1567 : Ref sig .tc := ⟨.hbm, 2320, rfl⟩
abbrev main_cst_483 : Ref sig .tc := ⟨.hbm, 2321, rfl⟩
abbrev main_v1568 : Ref sig .tc := ⟨.hbm, 2322, rfl⟩
abbrev main_v1569 : Ref sig .tc := ⟨.hbm, 2323, rfl⟩
abbrev main_cst_484 : Ref sig .tc := ⟨.hbm, 2324, rfl⟩
abbrev main_v1570 : Ref sig .tc := ⟨.hbm, 2325, rfl⟩
abbrev main_v1571 : Ref sig .tc := ⟨.hbm, 2326, rfl⟩
abbrev main_v1572 : Ref sig .tc := ⟨.hbm, 2327, rfl⟩
abbrev main_v1573 : Ref sig .tc := ⟨.hbm, 2328, rfl⟩
abbrev main_cst_485 : Ref sig .tc := ⟨.hbm, 2329, rfl⟩
abbrev main_v1574 : Ref sig .tc := ⟨.hbm, 2330, rfl⟩
abbrev main_v1575 : Ref sig .tc := ⟨.hbm, 2331, rfl⟩
abbrev main_cst_486 : Ref sig .tc := ⟨.hbm, 2332, rfl⟩
abbrev main_v1576 : Ref sig .tc := ⟨.hbm, 2333, rfl⟩
abbrev main_v1577 : Ref sig .tc := ⟨.hbm, 2334, rfl⟩
abbrev main_cst_487 : Ref sig .tc := ⟨.hbm, 2335, rfl⟩
abbrev main_v1578 : Ref sig .tc := ⟨.hbm, 2336, rfl⟩
abbrev main_v1579 : Ref sig .tc := ⟨.hbm, 2337, rfl⟩
abbrev main_v1580 : Ref sig .tc := ⟨.hbm, 2338, rfl⟩
abbrev main_v1581 : Ref sig .tc := ⟨.hbm, 2339, rfl⟩
abbrev main_v1582 : Ref sig .tc := ⟨.hbm, 2340, rfl⟩
abbrev main_v1583 : Ref sig .tc := ⟨.hbm, 2341, rfl⟩
abbrev main_v1584 : Ref sig .tc := ⟨.hbm, 2342, rfl⟩
abbrev main_c_488 : Ref sig .tc := ⟨.hbm, 2343, rfl⟩
abbrev main_c_489 : Ref sig .tc := ⟨.hbm, 2344, rfl⟩
abbrev main_call48_v0 : Ref sig .tc := ⟨.hbm, 2345, rfl⟩
abbrev main_call48_v1 : Ref sig .tc := ⟨.hbm, 2346, rfl⟩
abbrev main_call48_v2 : Ref sig .tc := ⟨.hbm, 2347, rfl⟩
abbrev main_call48_v3 : Ref sig .tc := ⟨.hbm, 2348, rfl⟩
abbrev main_call48_v4 : Ref sig .tc := ⟨.hbm, 2349, rfl⟩
abbrev main_v1585 : Ref sig .tc := ⟨.hbm, 2350, rfl⟩
abbrev main_c_490 : Ref sig .tc := ⟨.hbm, 2351, rfl⟩
abbrev main_v1586 : Ref sig .tc := ⟨.hbm, 2352, rfl⟩
abbrev main_v1587 : Ref sig .tc := ⟨.hbm, 2353, rfl⟩
abbrev main_c_491 : Ref sig .tc := ⟨.hbm, 2354, rfl⟩
abbrev main_c_492 : Ref sig .tc := ⟨.hbm, 2355, rfl⟩
abbrev main_call49_v0 : Ref sig .tc := ⟨.hbm, 2356, rfl⟩
abbrev main_call49_v1 : Ref sig .tc := ⟨.hbm, 2357, rfl⟩
abbrev main_call49_v2 : Ref sig .tc := ⟨.hbm, 2358, rfl⟩
abbrev main_call49_v3 : Ref sig .tc := ⟨.hbm, 2359, rfl⟩
abbrev main_call49_v4 : Ref sig .tc := ⟨.hbm, 2360, rfl⟩
abbrev main_v1588 : Ref sig .tc := ⟨.hbm, 2361, rfl⟩
abbrev main_v1589 : Ref sig .tc := ⟨.hbm, 2362, rfl⟩
abbrev main_c_493 : Ref sig .tc := ⟨.hbm, 2363, rfl⟩
abbrev main_c_494 : Ref sig .tc := ⟨.hbm, 2364, rfl⟩
abbrev main_call50_v0 : Ref sig .tc := ⟨.hbm, 2365, rfl⟩
abbrev main_call50_v1 : Ref sig .tc := ⟨.hbm, 2366, rfl⟩
abbrev main_call50_v2 : Ref sig .tc := ⟨.hbm, 2367, rfl⟩
abbrev main_call50_v3 : Ref sig .tc := ⟨.hbm, 2368, rfl⟩
abbrev main_call50_v4 : Ref sig .tc := ⟨.hbm, 2369, rfl⟩
abbrev main_v1590 : Ref sig .tc := ⟨.hbm, 2370, rfl⟩
abbrev main_c_495 : Ref sig .tc := ⟨.hbm, 2371, rfl⟩
abbrev main_v1591 : Ref sig .tc := ⟨.hbm, 2372, rfl⟩
abbrev main_v1592 : Ref sig .tc := ⟨.hbm, 2373, rfl⟩
abbrev main_c_496 : Ref sig .tc := ⟨.hbm, 2374, rfl⟩
abbrev main_c_497 : Ref sig .tc := ⟨.hbm, 2375, rfl⟩
abbrev main_call51_v0 : Ref sig .tc := ⟨.hbm, 2376, rfl⟩
abbrev main_call51_v1 : Ref sig .tc := ⟨.hbm, 2377, rfl⟩
abbrev main_call51_v2 : Ref sig .tc := ⟨.hbm, 2378, rfl⟩
abbrev main_call51_v3 : Ref sig .tc := ⟨.hbm, 2379, rfl⟩
abbrev main_call51_v4 : Ref sig .tc := ⟨.hbm, 2380, rfl⟩
abbrev main_v1593 : Ref sig .tc := ⟨.hbm, 2381, rfl⟩
abbrev main_c_498 : Ref sig .tc := ⟨.hbm, 2382, rfl⟩
abbrev main_v1594 : Ref sig .tc := ⟨.hbm, 2383, rfl⟩
abbrev main_v1595 : Ref sig .tc := ⟨.hbm, 2384, rfl⟩
abbrev main_c_499 : Ref sig .tc := ⟨.hbm, 2385, rfl⟩
abbrev main_v1596 : Ref sig .tc := ⟨.hbm, 2386, rfl⟩
abbrev main_v1597 : Ref sig .tc := ⟨.hbm, 2387, rfl⟩
abbrev main_v1598 : Ref sig .tc := ⟨.hbm, 2388, rfl⟩
abbrev main_c_500 : Ref sig .tc := ⟨.hbm, 2389, rfl⟩
abbrev main_v1599 : Ref sig .tc := ⟨.hbm, 2390, rfl⟩
abbrev main_v1600 : Ref sig .tc := ⟨.hbm, 2391, rfl⟩
abbrev main_c_501 : Ref sig .tc := ⟨.hbm, 2392, rfl⟩
abbrev main_v1601 : Ref sig .tc := ⟨.hbm, 2393, rfl⟩
abbrev main_v1602 : Ref sig .tc := ⟨.hbm, 2394, rfl⟩
abbrev main_v1603 : Ref sig .tc := ⟨.hbm, 2395, rfl⟩
abbrev main_v1604 : Ref sig .tc := ⟨.hbm, 2396, rfl⟩
abbrev main_v1605 : Ref sig .tc := ⟨.hbm, 2397, rfl⟩
abbrev main_v1606 : Ref sig .tc := ⟨.hbm, 2398, rfl⟩
abbrev main_v1607 : Ref sig .tc := ⟨.hbm, 2399, rfl⟩
abbrev main_c_502 : Ref sig .tc := ⟨.hbm, 2400, rfl⟩
abbrev main_v1608 : Ref sig .tc := ⟨.hbm, 2401, rfl⟩
abbrev main_v1609 : Ref sig .tc := ⟨.hbm, 2402, rfl⟩
abbrev main_c_503 : Ref sig .tc := ⟨.hbm, 2403, rfl⟩
abbrev main_v1610 : Ref sig .tc := ⟨.hbm, 2404, rfl⟩
abbrev main_v1611 : Ref sig .tc := ⟨.hbm, 2405, rfl⟩
abbrev main_v1612 : Ref sig .tc := ⟨.hbm, 2406, rfl⟩
abbrev main_c_504 : Ref sig .tc := ⟨.hbm, 2407, rfl⟩
abbrev main_v1613 : Ref sig .tc := ⟨.hbm, 2408, rfl⟩
abbrev main_v1614 : Ref sig .tc := ⟨.hbm, 2409, rfl⟩
abbrev main_c_505 : Ref sig .tc := ⟨.hbm, 2410, rfl⟩
abbrev main_v1615 : Ref sig .tc := ⟨.hbm, 2411, rfl⟩
abbrev main_v1616 : Ref sig .tc := ⟨.hbm, 2412, rfl⟩
abbrev main_v1617 : Ref sig .tc := ⟨.hbm, 2413, rfl⟩
abbrev main_v1618 : Ref sig .tc := ⟨.hbm, 2414, rfl⟩
abbrev main_v1619 : Ref sig .tc := ⟨.hbm, 2415, rfl⟩
abbrev main_v1620 : Ref sig .tc := ⟨.hbm, 2416, rfl⟩
abbrev main_v1621 : Ref sig .tc := ⟨.hbm, 2417, rfl⟩
abbrev main_c_506 : Ref sig .tc := ⟨.hbm, 2418, rfl⟩
abbrev main_v1622 : Ref sig .tc := ⟨.hbm, 2419, rfl⟩
abbrev main_v1623 : Ref sig .tc := ⟨.hbm, 2420, rfl⟩
abbrev main_c_507 : Ref sig .tc := ⟨.hbm, 2421, rfl⟩
abbrev main_v1624 : Ref sig .tc := ⟨.hbm, 2422, rfl⟩
abbrev main_v1625 : Ref sig .tc := ⟨.hbm, 2423, rfl⟩
abbrev main_v1626 : Ref sig .tc := ⟨.hbm, 2424, rfl⟩
abbrev main_c_508 : Ref sig .tc := ⟨.hbm, 2425, rfl⟩
abbrev main_v1627 : Ref sig .tc := ⟨.hbm, 2426, rfl⟩
abbrev main_v1628 : Ref sig .tc := ⟨.hbm, 2427, rfl⟩
abbrev main_c_509 : Ref sig .tc := ⟨.hbm, 2428, rfl⟩
abbrev main_v1629 : Ref sig .tc := ⟨.hbm, 2429, rfl⟩
abbrev main_v1630 : Ref sig .tc := ⟨.hbm, 2430, rfl⟩
abbrev main_v1631 : Ref sig .tc := ⟨.hbm, 2431, rfl⟩
abbrev main_v1632 : Ref sig .tc := ⟨.hbm, 2432, rfl⟩
abbrev main_v1633 : Ref sig .tc := ⟨.hbm, 2433, rfl⟩
abbrev main_v1634 : Ref sig .tc := ⟨.hbm, 2434, rfl⟩
abbrev main_v1635 : Ref sig .tc := ⟨.hbm, 2435, rfl⟩
abbrev main_c_510 : Ref sig .tc := ⟨.hbm, 2436, rfl⟩
abbrev main_v1636 : Ref sig .tc := ⟨.hbm, 2437, rfl⟩
abbrev main_v1637 : Ref sig .tc := ⟨.hbm, 2438, rfl⟩
abbrev main_c_511 : Ref sig .tc := ⟨.hbm, 2439, rfl⟩
abbrev main_v1638 : Ref sig .tc := ⟨.hbm, 2440, rfl⟩
abbrev main_v1639 : Ref sig .tc := ⟨.hbm, 2441, rfl⟩
abbrev main_v1640 : Ref sig .tc := ⟨.hbm, 2442, rfl⟩
abbrev main_c_512 : Ref sig .tc := ⟨.hbm, 2443, rfl⟩
abbrev main_v1641 : Ref sig .tc := ⟨.hbm, 2444, rfl⟩
abbrev main_v1642 : Ref sig .tc := ⟨.hbm, 2445, rfl⟩
abbrev main_c_513 : Ref sig .tc := ⟨.hbm, 2446, rfl⟩
abbrev main_v1643 : Ref sig .tc := ⟨.hbm, 2447, rfl⟩
abbrev main_v1644 : Ref sig .tc := ⟨.hbm, 2448, rfl⟩
abbrev main_v1645 : Ref sig .tc := ⟨.hbm, 2449, rfl⟩
abbrev main_v1646 : Ref sig .tc := ⟨.hbm, 2450, rfl⟩
abbrev main_v1647 : Ref sig .tc := ⟨.hbm, 2451, rfl⟩
abbrev main_v1648 : Ref sig .tc := ⟨.hbm, 2452, rfl⟩
abbrev main_v1649 : Ref sig .tc := ⟨.hbm, 2453, rfl⟩
abbrev main_cst_514 : Ref sig .tc := ⟨.hbm, 2454, rfl⟩
abbrev main_v1650 : Ref sig .tc := ⟨.hbm, 2455, rfl⟩
abbrev main_v1651 : Ref sig .tc := ⟨.hbm, 2456, rfl⟩
abbrev main_v1652 : Ref sig .tc := ⟨.hbm, 2457, rfl⟩
abbrev main_v1653 : Ref sig .tc := ⟨.hbm, 2458, rfl⟩
abbrev main_v1654 : Ref sig .tc := ⟨.hbm, 2459, rfl⟩
abbrev main_cst_515 : Ref sig .tc := ⟨.hbm, 2460, rfl⟩
abbrev main_v1655 : Ref sig .tc := ⟨.hbm, 2461, rfl⟩
abbrev main_v1656 : Ref sig .tc := ⟨.hbm, 2462, rfl⟩
abbrev main_v1657 : Ref sig .tc := ⟨.hbm, 2463, rfl⟩
abbrev main_v1658 : Ref sig .tc := ⟨.hbm, 2464, rfl⟩
abbrev main_v1659 : Ref sig .tc := ⟨.hbm, 2465, rfl⟩
abbrev main_v1660 : Ref sig .tc := ⟨.hbm, 2466, rfl⟩
abbrev main_v1661 : Ref sig .tc := ⟨.hbm, 2467, rfl⟩
abbrev main_v1662 : Ref sig .tc := ⟨.hbm, 2468, rfl⟩
abbrev main_cst_516 : Ref sig .tc := ⟨.hbm, 2469, rfl⟩
abbrev main_v1663 : Ref sig .tc := ⟨.hbm, 2470, rfl⟩
abbrev main_v1664 : Ref sig .tc := ⟨.hbm, 2471, rfl⟩
abbrev main_v1665 : Ref sig .tc := ⟨.hbm, 2472, rfl⟩
abbrev main_v1666 : Ref sig .tc := ⟨.hbm, 2473, rfl⟩
abbrev main_v1667 : Ref sig .tc := ⟨.hbm, 2474, rfl⟩
abbrev main_v1668 : Ref sig .tc := ⟨.hbm, 2475, rfl⟩
abbrev main_cst_517 : Ref sig .tc := ⟨.hbm, 2476, rfl⟩
abbrev main_v1669 : Ref sig .tc := ⟨.hbm, 2477, rfl⟩
abbrev main_v1670 : Ref sig .tc := ⟨.hbm, 2478, rfl⟩
abbrev main_v1671 : Ref sig .tc := ⟨.hbm, 2479, rfl⟩
abbrev main_v1672 : Ref sig .tc := ⟨.hbm, 2480, rfl⟩
abbrev main_v1673 : Ref sig .tc := ⟨.hbm, 2481, rfl⟩
abbrev main_v1674 : Ref sig .tc := ⟨.hbm, 2482, rfl⟩
abbrev main_v1675 : Ref sig .tc := ⟨.hbm, 2483, rfl⟩
abbrev main_v1676 : Ref sig .tc := ⟨.hbm, 2484, rfl⟩
abbrev main_v1677 : Ref sig .tc := ⟨.hbm, 2485, rfl⟩
abbrev main_v1678 : Ref sig .tc := ⟨.hbm, 2486, rfl⟩
abbrev main_v1679 : Ref sig .tc := ⟨.hbm, 2487, rfl⟩
abbrev main_v1680 : Ref sig .tc := ⟨.hbm, 2488, rfl⟩
abbrev main_v1681 : Ref sig .tc := ⟨.hbm, 2489, rfl⟩
abbrev main_v1682 : Ref sig .tc := ⟨.hbm, 2490, rfl⟩
abbrev main_v1683 : Ref sig .tc := ⟨.hbm, 2491, rfl⟩
abbrev main_v1684 : Ref sig .tc := ⟨.hbm, 2492, rfl⟩
abbrev main_v1685 : Ref sig .tc := ⟨.hbm, 2493, rfl⟩
abbrev main_c_518 : Ref sig .tc := ⟨.hbm, 2494, rfl⟩
abbrev main_v1686 : Ref sig .tc := ⟨.hbm, 2495, rfl⟩
abbrev main_v1687 : Ref sig .tc := ⟨.hbm, 2496, rfl⟩
abbrev main_c_519 : Ref sig .tc := ⟨.hbm, 2497, rfl⟩
abbrev main_v1688 : Ref sig .tc := ⟨.hbm, 2498, rfl⟩
abbrev main_v1689 : Ref sig .tc := ⟨.hbm, 2499, rfl⟩
abbrev main_v1690 : Ref sig .tc := ⟨.hbm, 2500, rfl⟩
abbrev main_v1691 : Ref sig .tc := ⟨.hbm, 2501, rfl⟩
abbrev main_v1692 : Ref sig .tc := ⟨.hbm, 2502, rfl⟩
abbrev main_v1693 : Ref sig .tc := ⟨.hbm, 2503, rfl⟩
abbrev main_v1694 : Ref sig .tc := ⟨.hbm, 2504, rfl⟩
abbrev main_cst_520 : Ref sig .tc := ⟨.hbm, 2505, rfl⟩
abbrev main_v1695 : Ref sig .tc := ⟨.hbm, 2506, rfl⟩
abbrev main_v1696 : Ref sig .tc := ⟨.hbm, 2507, rfl⟩
abbrev main_cst_521 : Ref sig .tc := ⟨.hbm, 2508, rfl⟩
abbrev main_v1697 : Ref sig .tc := ⟨.hbm, 2509, rfl⟩
abbrev main_v1698 : Ref sig .tc := ⟨.hbm, 2510, rfl⟩
abbrev main_cst_522 : Ref sig .tc := ⟨.hbm, 2511, rfl⟩
abbrev main_v1699 : Ref sig .tc := ⟨.hbm, 2512, rfl⟩
abbrev main_v1700 : Ref sig .tc := ⟨.hbm, 2513, rfl⟩
abbrev main_v1701 : Ref sig .tc := ⟨.hbm, 2514, rfl⟩
abbrev main_v1702 : Ref sig .tc := ⟨.hbm, 2515, rfl⟩
abbrev main_cst_523 : Ref sig .tc := ⟨.hbm, 2516, rfl⟩
abbrev main_v1703 : Ref sig .tc := ⟨.hbm, 2517, rfl⟩
abbrev main_v1704 : Ref sig .tc := ⟨.hbm, 2518, rfl⟩
abbrev main_cst_524 : Ref sig .tc := ⟨.hbm, 2519, rfl⟩
abbrev main_v1705 : Ref sig .tc := ⟨.hbm, 2520, rfl⟩
abbrev main_v1706 : Ref sig .tc := ⟨.hbm, 2521, rfl⟩
abbrev main_cst_525 : Ref sig .tc := ⟨.hbm, 2522, rfl⟩
abbrev main_v1707 : Ref sig .tc := ⟨.hbm, 2523, rfl⟩
abbrev main_v1708 : Ref sig .tc := ⟨.hbm, 2524, rfl⟩
abbrev main_v1709 : Ref sig .tc := ⟨.hbm, 2525, rfl⟩
abbrev main_v1710 : Ref sig .tc := ⟨.hbm, 2526, rfl⟩
abbrev main_v1711 : Ref sig .tc := ⟨.hbm, 2527, rfl⟩
abbrev main_v1712 : Ref sig .tc := ⟨.hbm, 2528, rfl⟩
abbrev main_v1713 : Ref sig .tc := ⟨.hbm, 2529, rfl⟩
abbrev main_c_526 : Ref sig .tc := ⟨.hbm, 2530, rfl⟩
abbrev main_c_527 : Ref sig .tc := ⟨.hbm, 2531, rfl⟩
abbrev main_call52_v0 : Ref sig .tc := ⟨.hbm, 2532, rfl⟩
abbrev main_call52_v1 : Ref sig .tc := ⟨.hbm, 2533, rfl⟩
abbrev main_call52_v2 : Ref sig .tc := ⟨.hbm, 2534, rfl⟩
abbrev main_call52_v3 : Ref sig .tc := ⟨.hbm, 2535, rfl⟩
abbrev main_call52_v4 : Ref sig .tc := ⟨.hbm, 2536, rfl⟩
abbrev main_v1714 : Ref sig .tc := ⟨.hbm, 2537, rfl⟩
abbrev main_c_528 : Ref sig .tc := ⟨.hbm, 2538, rfl⟩
abbrev main_v1715 : Ref sig .tc := ⟨.hbm, 2539, rfl⟩
abbrev main_v1716 : Ref sig .tc := ⟨.hbm, 2540, rfl⟩
abbrev main_c_529 : Ref sig .tc := ⟨.hbm, 2541, rfl⟩
abbrev main_c_530 : Ref sig .tc := ⟨.hbm, 2542, rfl⟩
abbrev main_call53_v0 : Ref sig .tc := ⟨.hbm, 2543, rfl⟩
abbrev main_call53_v1 : Ref sig .tc := ⟨.hbm, 2544, rfl⟩
abbrev main_call53_v2 : Ref sig .tc := ⟨.hbm, 2545, rfl⟩
abbrev main_call53_v3 : Ref sig .tc := ⟨.hbm, 2546, rfl⟩
abbrev main_call53_v4 : Ref sig .tc := ⟨.hbm, 2547, rfl⟩
abbrev main_v1717 : Ref sig .tc := ⟨.hbm, 2548, rfl⟩
abbrev main_v1718 : Ref sig .tc := ⟨.hbm, 2549, rfl⟩
abbrev main_c_531 : Ref sig .tc := ⟨.hbm, 2550, rfl⟩
abbrev main_c_532 : Ref sig .tc := ⟨.hbm, 2551, rfl⟩
abbrev main_call54_v0 : Ref sig .tc := ⟨.hbm, 2552, rfl⟩
abbrev main_call54_v1 : Ref sig .tc := ⟨.hbm, 2553, rfl⟩
abbrev main_call54_v2 : Ref sig .tc := ⟨.hbm, 2554, rfl⟩
abbrev main_call54_v3 : Ref sig .tc := ⟨.hbm, 2555, rfl⟩
abbrev main_call54_v4 : Ref sig .tc := ⟨.hbm, 2556, rfl⟩
abbrev main_v1719 : Ref sig .tc := ⟨.hbm, 2557, rfl⟩
abbrev main_c_533 : Ref sig .tc := ⟨.hbm, 2558, rfl⟩
abbrev main_v1720 : Ref sig .tc := ⟨.hbm, 2559, rfl⟩
abbrev main_v1721 : Ref sig .tc := ⟨.hbm, 2560, rfl⟩
abbrev main_c_534 : Ref sig .tc := ⟨.hbm, 2561, rfl⟩
abbrev main_c_535 : Ref sig .tc := ⟨.hbm, 2562, rfl⟩
abbrev main_call55_v0 : Ref sig .tc := ⟨.hbm, 2563, rfl⟩
abbrev main_call55_v1 : Ref sig .tc := ⟨.hbm, 2564, rfl⟩
abbrev main_call55_v2 : Ref sig .tc := ⟨.hbm, 2565, rfl⟩
abbrev main_call55_v3 : Ref sig .tc := ⟨.hbm, 2566, rfl⟩
abbrev main_call55_v4 : Ref sig .tc := ⟨.hbm, 2567, rfl⟩
abbrev main_v1722 : Ref sig .tc := ⟨.hbm, 2568, rfl⟩
abbrev main_c_536 : Ref sig .tc := ⟨.hbm, 2569, rfl⟩
abbrev main_v1723 : Ref sig .tc := ⟨.hbm, 2570, rfl⟩
abbrev main_v1724 : Ref sig .tc := ⟨.hbm, 2571, rfl⟩
abbrev main_c_537 : Ref sig .tc := ⟨.hbm, 2572, rfl⟩
abbrev main_v1725 : Ref sig .tc := ⟨.hbm, 2573, rfl⟩
abbrev main_v1726 : Ref sig .tc := ⟨.hbm, 2574, rfl⟩
abbrev main_v1727 : Ref sig .tc := ⟨.hbm, 2575, rfl⟩
abbrev main_c_538 : Ref sig .tc := ⟨.hbm, 2576, rfl⟩
abbrev main_v1728 : Ref sig .tc := ⟨.hbm, 2577, rfl⟩
abbrev main_v1729 : Ref sig .tc := ⟨.hbm, 2578, rfl⟩
abbrev main_c_539 : Ref sig .tc := ⟨.hbm, 2579, rfl⟩
abbrev main_v1730 : Ref sig .tc := ⟨.hbm, 2580, rfl⟩
abbrev main_v1731 : Ref sig .tc := ⟨.hbm, 2581, rfl⟩
abbrev main_v1732 : Ref sig .tc := ⟨.hbm, 2582, rfl⟩
abbrev main_v1733 : Ref sig .tc := ⟨.hbm, 2583, rfl⟩
abbrev main_v1734 : Ref sig .tc := ⟨.hbm, 2584, rfl⟩
abbrev main_v1735 : Ref sig .tc := ⟨.hbm, 2585, rfl⟩
abbrev main_v1736 : Ref sig .tc := ⟨.hbm, 2586, rfl⟩
abbrev main_c_540 : Ref sig .tc := ⟨.hbm, 2587, rfl⟩
abbrev main_v1737 : Ref sig .tc := ⟨.hbm, 2588, rfl⟩
abbrev main_v1738 : Ref sig .tc := ⟨.hbm, 2589, rfl⟩
abbrev main_c_541 : Ref sig .tc := ⟨.hbm, 2590, rfl⟩
abbrev main_v1739 : Ref sig .tc := ⟨.hbm, 2591, rfl⟩
abbrev main_v1740 : Ref sig .tc := ⟨.hbm, 2592, rfl⟩
abbrev main_v1741 : Ref sig .tc := ⟨.hbm, 2593, rfl⟩
abbrev main_c_542 : Ref sig .tc := ⟨.hbm, 2594, rfl⟩
abbrev main_v1742 : Ref sig .tc := ⟨.hbm, 2595, rfl⟩
abbrev main_v1743 : Ref sig .tc := ⟨.hbm, 2596, rfl⟩
abbrev main_c_543 : Ref sig .tc := ⟨.hbm, 2597, rfl⟩
abbrev main_v1744 : Ref sig .tc := ⟨.hbm, 2598, rfl⟩
abbrev main_v1745 : Ref sig .tc := ⟨.hbm, 2599, rfl⟩
abbrev main_v1746 : Ref sig .tc := ⟨.hbm, 2600, rfl⟩
abbrev main_v1747 : Ref sig .tc := ⟨.hbm, 2601, rfl⟩
abbrev main_v1748 : Ref sig .tc := ⟨.hbm, 2602, rfl⟩
abbrev main_v1749 : Ref sig .tc := ⟨.hbm, 2603, rfl⟩
abbrev main_v1750 : Ref sig .tc := ⟨.hbm, 2604, rfl⟩
abbrev main_c_544 : Ref sig .tc := ⟨.hbm, 2605, rfl⟩
abbrev main_v1751 : Ref sig .tc := ⟨.hbm, 2606, rfl⟩
abbrev main_v1752 : Ref sig .tc := ⟨.hbm, 2607, rfl⟩
abbrev main_c_545 : Ref sig .tc := ⟨.hbm, 2608, rfl⟩
abbrev main_v1753 : Ref sig .tc := ⟨.hbm, 2609, rfl⟩
abbrev main_v1754 : Ref sig .tc := ⟨.hbm, 2610, rfl⟩
abbrev main_v1755 : Ref sig .tc := ⟨.hbm, 2611, rfl⟩
abbrev main_c_546 : Ref sig .tc := ⟨.hbm, 2612, rfl⟩
abbrev main_v1756 : Ref sig .tc := ⟨.hbm, 2613, rfl⟩
abbrev main_v1757 : Ref sig .tc := ⟨.hbm, 2614, rfl⟩
abbrev main_c_547 : Ref sig .tc := ⟨.hbm, 2615, rfl⟩
abbrev main_v1758 : Ref sig .tc := ⟨.hbm, 2616, rfl⟩
abbrev main_v1759 : Ref sig .tc := ⟨.hbm, 2617, rfl⟩
abbrev main_v1760 : Ref sig .tc := ⟨.hbm, 2618, rfl⟩
abbrev main_v1761 : Ref sig .tc := ⟨.hbm, 2619, rfl⟩
abbrev main_v1762 : Ref sig .tc := ⟨.hbm, 2620, rfl⟩
abbrev main_v1763 : Ref sig .tc := ⟨.hbm, 2621, rfl⟩
abbrev main_v1764 : Ref sig .tc := ⟨.hbm, 2622, rfl⟩
abbrev main_c_548 : Ref sig .tc := ⟨.hbm, 2623, rfl⟩
abbrev main_v1765 : Ref sig .tc := ⟨.hbm, 2624, rfl⟩
abbrev main_v1766 : Ref sig .tc := ⟨.hbm, 2625, rfl⟩
abbrev main_c_549 : Ref sig .tc := ⟨.hbm, 2626, rfl⟩
abbrev main_v1767 : Ref sig .tc := ⟨.hbm, 2627, rfl⟩
abbrev main_v1768 : Ref sig .tc := ⟨.hbm, 2628, rfl⟩
abbrev main_v1769 : Ref sig .tc := ⟨.hbm, 2629, rfl⟩
abbrev main_c_550 : Ref sig .tc := ⟨.hbm, 2630, rfl⟩
abbrev main_v1770 : Ref sig .tc := ⟨.hbm, 2631, rfl⟩
abbrev main_v1771 : Ref sig .tc := ⟨.hbm, 2632, rfl⟩
abbrev main_c_551 : Ref sig .tc := ⟨.hbm, 2633, rfl⟩
abbrev main_v1772 : Ref sig .tc := ⟨.hbm, 2634, rfl⟩
abbrev main_v1773 : Ref sig .tc := ⟨.hbm, 2635, rfl⟩
abbrev main_v1774 : Ref sig .tc := ⟨.hbm, 2636, rfl⟩
abbrev main_v1775 : Ref sig .tc := ⟨.hbm, 2637, rfl⟩
abbrev main_v1776 : Ref sig .tc := ⟨.hbm, 2638, rfl⟩
abbrev main_v1777 : Ref sig .tc := ⟨.hbm, 2639, rfl⟩
abbrev main_v1778 : Ref sig .tc := ⟨.hbm, 2640, rfl⟩
abbrev main_cst_552 : Ref sig .tc := ⟨.hbm, 2641, rfl⟩
abbrev main_v1779 : Ref sig .tc := ⟨.hbm, 2642, rfl⟩
abbrev main_v1780 : Ref sig .tc := ⟨.hbm, 2643, rfl⟩
abbrev main_v1781 : Ref sig .tc := ⟨.hbm, 2644, rfl⟩
abbrev main_v1782 : Ref sig .tc := ⟨.hbm, 2645, rfl⟩
abbrev main_v1783 : Ref sig .tc := ⟨.hbm, 2646, rfl⟩
abbrev main_cst_553 : Ref sig .tc := ⟨.hbm, 2647, rfl⟩
abbrev main_v1784 : Ref sig .tc := ⟨.hbm, 2648, rfl⟩
abbrev main_v1785 : Ref sig .tc := ⟨.hbm, 2649, rfl⟩
abbrev main_v1786 : Ref sig .tc := ⟨.hbm, 2650, rfl⟩
abbrev main_v1787 : Ref sig .tc := ⟨.hbm, 2651, rfl⟩
abbrev main_v1788 : Ref sig .tc := ⟨.hbm, 2652, rfl⟩
abbrev main_v1789 : Ref sig .tc := ⟨.hbm, 2653, rfl⟩
abbrev main_v1790 : Ref sig .tc := ⟨.hbm, 2654, rfl⟩
abbrev main_v1791 : Ref sig .tc := ⟨.hbm, 2655, rfl⟩
abbrev main_cst_554 : Ref sig .tc := ⟨.hbm, 2656, rfl⟩
abbrev main_v1792 : Ref sig .tc := ⟨.hbm, 2657, rfl⟩
abbrev main_v1793 : Ref sig .tc := ⟨.hbm, 2658, rfl⟩
abbrev main_v1794 : Ref sig .tc := ⟨.hbm, 2659, rfl⟩
abbrev main_v1795 : Ref sig .tc := ⟨.hbm, 2660, rfl⟩
abbrev main_v1796 : Ref sig .tc := ⟨.hbm, 2661, rfl⟩
abbrev main_v1797 : Ref sig .tc := ⟨.hbm, 2662, rfl⟩
abbrev main_cst_555 : Ref sig .tc := ⟨.hbm, 2663, rfl⟩
abbrev main_v1798 : Ref sig .tc := ⟨.hbm, 2664, rfl⟩
abbrev main_v1799 : Ref sig .tc := ⟨.hbm, 2665, rfl⟩
abbrev main_v1800 : Ref sig .tc := ⟨.hbm, 2666, rfl⟩
abbrev main_v1801 : Ref sig .tc := ⟨.hbm, 2667, rfl⟩
abbrev main_v1802 : Ref sig .tc := ⟨.hbm, 2668, rfl⟩
abbrev main_v1803 : Ref sig .tc := ⟨.hbm, 2669, rfl⟩
abbrev main_v1804 : Ref sig .tc := ⟨.hbm, 2670, rfl⟩
abbrev main_v1805 : Ref sig .tc := ⟨.hbm, 2671, rfl⟩
abbrev main_v1806 : Ref sig .tc := ⟨.hbm, 2672, rfl⟩
abbrev main_v1807 : Ref sig .tc := ⟨.hbm, 2673, rfl⟩
abbrev main_v1808 : Ref sig .tc := ⟨.hbm, 2674, rfl⟩
abbrev main_v1809 : Ref sig .tc := ⟨.hbm, 2675, rfl⟩
abbrev main_v1810 : Ref sig .tc := ⟨.hbm, 2676, rfl⟩
abbrev main_v1811 : Ref sig .tc := ⟨.hbm, 2677, rfl⟩
abbrev main_v1812 : Ref sig .tc := ⟨.hbm, 2678, rfl⟩
abbrev main_v1813 : Ref sig .tc := ⟨.hbm, 2679, rfl⟩
abbrev main_v1814 : Ref sig .tc := ⟨.hbm, 2680, rfl⟩
abbrev main_c_556 : Ref sig .tc := ⟨.hbm, 2681, rfl⟩
abbrev main_v1815 : Ref sig .tc := ⟨.hbm, 2682, rfl⟩
abbrev main_v1816 : Ref sig .tc := ⟨.hbm, 2683, rfl⟩
abbrev main_c_557 : Ref sig .tc := ⟨.hbm, 2684, rfl⟩
abbrev main_v1817 : Ref sig .tc := ⟨.hbm, 2685, rfl⟩
abbrev main_v1818 : Ref sig .tc := ⟨.hbm, 2686, rfl⟩
abbrev main_v1819 : Ref sig .tc := ⟨.hbm, 2687, rfl⟩
abbrev main_v1820 : Ref sig .tc := ⟨.hbm, 2688, rfl⟩
abbrev main_v1821 : Ref sig .tc := ⟨.hbm, 2689, rfl⟩
abbrev main_v1822 : Ref sig .tc := ⟨.hbm, 2690, rfl⟩
abbrev main_v1823 : Ref sig .tc := ⟨.hbm, 2691, rfl⟩
abbrev main_cst_558 : Ref sig .tc := ⟨.hbm, 2692, rfl⟩
abbrev main_v1824 : Ref sig .tc := ⟨.hbm, 2693, rfl⟩
abbrev main_v1825 : Ref sig .tc := ⟨.hbm, 2694, rfl⟩
abbrev main_cst_559 : Ref sig .tc := ⟨.hbm, 2695, rfl⟩
abbrev main_v1826 : Ref sig .tc := ⟨.hbm, 2696, rfl⟩
abbrev main_v1827 : Ref sig .tc := ⟨.hbm, 2697, rfl⟩
abbrev main_cst_560 : Ref sig .tc := ⟨.hbm, 2698, rfl⟩
abbrev main_v1828 : Ref sig .tc := ⟨.hbm, 2699, rfl⟩
abbrev main_v1829 : Ref sig .tc := ⟨.hbm, 2700, rfl⟩
abbrev main_v1830 : Ref sig .tc := ⟨.hbm, 2701, rfl⟩
abbrev main_v1831 : Ref sig .tc := ⟨.hbm, 2702, rfl⟩
abbrev main_cst_561 : Ref sig .tc := ⟨.hbm, 2703, rfl⟩
abbrev main_v1832 : Ref sig .tc := ⟨.hbm, 2704, rfl⟩
abbrev main_v1833 : Ref sig .tc := ⟨.hbm, 2705, rfl⟩
abbrev main_cst_562 : Ref sig .tc := ⟨.hbm, 2706, rfl⟩
abbrev main_v1834 : Ref sig .tc := ⟨.hbm, 2707, rfl⟩
abbrev main_v1835 : Ref sig .tc := ⟨.hbm, 2708, rfl⟩
abbrev main_cst_563 : Ref sig .tc := ⟨.hbm, 2709, rfl⟩
abbrev main_v1836 : Ref sig .tc := ⟨.hbm, 2710, rfl⟩
abbrev main_v1837 : Ref sig .tc := ⟨.hbm, 2711, rfl⟩
abbrev main_v1838 : Ref sig .tc := ⟨.hbm, 2712, rfl⟩
abbrev main_v1839 : Ref sig .tc := ⟨.hbm, 2713, rfl⟩
abbrev main_v1840 : Ref sig .tc := ⟨.hbm, 2714, rfl⟩
abbrev main_v1841 : Ref sig .tc := ⟨.hbm, 2715, rfl⟩
abbrev main_v1842 : Ref sig .tc := ⟨.hbm, 2716, rfl⟩
abbrev main_c_564 : Ref sig .tc := ⟨.hbm, 2717, rfl⟩
abbrev main_c_565 : Ref sig .tc := ⟨.hbm, 2718, rfl⟩
abbrev main_call56_v0 : Ref sig .tc := ⟨.hbm, 2719, rfl⟩
abbrev main_call56_v1 : Ref sig .tc := ⟨.hbm, 2720, rfl⟩
abbrev main_call56_v2 : Ref sig .tc := ⟨.hbm, 2721, rfl⟩
abbrev main_call56_v3 : Ref sig .tc := ⟨.hbm, 2722, rfl⟩
abbrev main_call56_v4 : Ref sig .tc := ⟨.hbm, 2723, rfl⟩
abbrev main_v1843 : Ref sig .tc := ⟨.hbm, 2724, rfl⟩
abbrev main_c_566 : Ref sig .tc := ⟨.hbm, 2725, rfl⟩
abbrev main_v1844 : Ref sig .tc := ⟨.hbm, 2726, rfl⟩
abbrev main_v1845 : Ref sig .tc := ⟨.hbm, 2727, rfl⟩
abbrev main_c_567 : Ref sig .tc := ⟨.hbm, 2728, rfl⟩
abbrev main_c_568 : Ref sig .tc := ⟨.hbm, 2729, rfl⟩
abbrev main_call57_v0 : Ref sig .tc := ⟨.hbm, 2730, rfl⟩
abbrev main_call57_v1 : Ref sig .tc := ⟨.hbm, 2731, rfl⟩
abbrev main_call57_v2 : Ref sig .tc := ⟨.hbm, 2732, rfl⟩
abbrev main_call57_v3 : Ref sig .tc := ⟨.hbm, 2733, rfl⟩
abbrev main_call57_v4 : Ref sig .tc := ⟨.hbm, 2734, rfl⟩
abbrev main_v1846 : Ref sig .tc := ⟨.hbm, 2735, rfl⟩
abbrev main_v1847 : Ref sig .tc := ⟨.hbm, 2736, rfl⟩
abbrev main_c_569 : Ref sig .tc := ⟨.hbm, 2737, rfl⟩
abbrev main_c_570 : Ref sig .tc := ⟨.hbm, 2738, rfl⟩
abbrev main_call58_v0 : Ref sig .tc := ⟨.hbm, 2739, rfl⟩
abbrev main_call58_v1 : Ref sig .tc := ⟨.hbm, 2740, rfl⟩
abbrev main_call58_v2 : Ref sig .tc := ⟨.hbm, 2741, rfl⟩
abbrev main_call58_v3 : Ref sig .tc := ⟨.hbm, 2742, rfl⟩
abbrev main_call58_v4 : Ref sig .tc := ⟨.hbm, 2743, rfl⟩
abbrev main_v1848 : Ref sig .tc := ⟨.hbm, 2744, rfl⟩
abbrev main_c_571 : Ref sig .tc := ⟨.hbm, 2745, rfl⟩
abbrev main_v1849 : Ref sig .tc := ⟨.hbm, 2746, rfl⟩
abbrev main_v1850 : Ref sig .tc := ⟨.hbm, 2747, rfl⟩
abbrev main_c_572 : Ref sig .tc := ⟨.hbm, 2748, rfl⟩
abbrev main_c_573 : Ref sig .tc := ⟨.hbm, 2749, rfl⟩
abbrev main_call59_v0 : Ref sig .tc := ⟨.hbm, 2750, rfl⟩
abbrev main_call59_v1 : Ref sig .tc := ⟨.hbm, 2751, rfl⟩
abbrev main_call59_v2 : Ref sig .tc := ⟨.hbm, 2752, rfl⟩
abbrev main_call59_v3 : Ref sig .tc := ⟨.hbm, 2753, rfl⟩
abbrev main_call59_v4 : Ref sig .tc := ⟨.hbm, 2754, rfl⟩
abbrev main_v1851 : Ref sig .tc := ⟨.hbm, 2755, rfl⟩
abbrev main_c_574 : Ref sig .tc := ⟨.hbm, 2756, rfl⟩
abbrev main_v1852 : Ref sig .tc := ⟨.hbm, 2757, rfl⟩
abbrev main_v1853 : Ref sig .tc := ⟨.hbm, 2758, rfl⟩
abbrev main_c_575 : Ref sig .tc := ⟨.hbm, 2759, rfl⟩
abbrev main_v1854 : Ref sig .tc := ⟨.hbm, 2760, rfl⟩
abbrev main_v1855 : Ref sig .tc := ⟨.hbm, 2761, rfl⟩
abbrev main_v1856 : Ref sig .tc := ⟨.hbm, 2762, rfl⟩
abbrev main_c_576 : Ref sig .tc := ⟨.hbm, 2763, rfl⟩
abbrev main_v1857 : Ref sig .tc := ⟨.hbm, 2764, rfl⟩
abbrev main_v1858 : Ref sig .tc := ⟨.hbm, 2765, rfl⟩
abbrev main_c_577 : Ref sig .tc := ⟨.hbm, 2766, rfl⟩
abbrev main_v1859 : Ref sig .tc := ⟨.hbm, 2767, rfl⟩
abbrev main_v1860 : Ref sig .tc := ⟨.hbm, 2768, rfl⟩
abbrev main_v1861 : Ref sig .tc := ⟨.hbm, 2769, rfl⟩
abbrev main_v1862 : Ref sig .tc := ⟨.hbm, 2770, rfl⟩
abbrev main_v1863 : Ref sig .tc := ⟨.hbm, 2771, rfl⟩
abbrev main_v1864 : Ref sig .tc := ⟨.hbm, 2772, rfl⟩
abbrev main_v1865 : Ref sig .tc := ⟨.hbm, 2773, rfl⟩
abbrev main_c_578 : Ref sig .tc := ⟨.hbm, 2774, rfl⟩
abbrev main_v1866 : Ref sig .tc := ⟨.hbm, 2775, rfl⟩
abbrev main_v1867 : Ref sig .tc := ⟨.hbm, 2776, rfl⟩
abbrev main_c_579 : Ref sig .tc := ⟨.hbm, 2777, rfl⟩
abbrev main_v1868 : Ref sig .tc := ⟨.hbm, 2778, rfl⟩
abbrev main_v1869 : Ref sig .tc := ⟨.hbm, 2779, rfl⟩
abbrev main_v1870 : Ref sig .tc := ⟨.hbm, 2780, rfl⟩
abbrev main_c_580 : Ref sig .tc := ⟨.hbm, 2781, rfl⟩
abbrev main_v1871 : Ref sig .tc := ⟨.hbm, 2782, rfl⟩
abbrev main_v1872 : Ref sig .tc := ⟨.hbm, 2783, rfl⟩
abbrev main_c_581 : Ref sig .tc := ⟨.hbm, 2784, rfl⟩
abbrev main_v1873 : Ref sig .tc := ⟨.hbm, 2785, rfl⟩
abbrev main_v1874 : Ref sig .tc := ⟨.hbm, 2786, rfl⟩
abbrev main_v1875 : Ref sig .tc := ⟨.hbm, 2787, rfl⟩
abbrev main_v1876 : Ref sig .tc := ⟨.hbm, 2788, rfl⟩
abbrev main_v1877 : Ref sig .tc := ⟨.hbm, 2789, rfl⟩
abbrev main_v1878 : Ref sig .tc := ⟨.hbm, 2790, rfl⟩
abbrev main_v1879 : Ref sig .tc := ⟨.hbm, 2791, rfl⟩
abbrev main_c_582 : Ref sig .tc := ⟨.hbm, 2792, rfl⟩
abbrev main_v1880 : Ref sig .tc := ⟨.hbm, 2793, rfl⟩
abbrev main_v1881 : Ref sig .tc := ⟨.hbm, 2794, rfl⟩
abbrev main_c_583 : Ref sig .tc := ⟨.hbm, 2795, rfl⟩
abbrev main_v1882 : Ref sig .tc := ⟨.hbm, 2796, rfl⟩
abbrev main_v1883 : Ref sig .tc := ⟨.hbm, 2797, rfl⟩
abbrev main_v1884 : Ref sig .tc := ⟨.hbm, 2798, rfl⟩
abbrev main_c_584 : Ref sig .tc := ⟨.hbm, 2799, rfl⟩
abbrev main_v1885 : Ref sig .tc := ⟨.hbm, 2800, rfl⟩
abbrev main_v1886 : Ref sig .tc := ⟨.hbm, 2801, rfl⟩
abbrev main_c_585 : Ref sig .tc := ⟨.hbm, 2802, rfl⟩
abbrev main_v1887 : Ref sig .tc := ⟨.hbm, 2803, rfl⟩
abbrev main_v1888 : Ref sig .tc := ⟨.hbm, 2804, rfl⟩
abbrev main_v1889 : Ref sig .tc := ⟨.hbm, 2805, rfl⟩
abbrev main_v1890 : Ref sig .tc := ⟨.hbm, 2806, rfl⟩
abbrev main_v1891 : Ref sig .tc := ⟨.hbm, 2807, rfl⟩
abbrev main_v1892 : Ref sig .tc := ⟨.hbm, 2808, rfl⟩
abbrev main_v1893 : Ref sig .tc := ⟨.hbm, 2809, rfl⟩
abbrev main_c_586 : Ref sig .tc := ⟨.hbm, 2810, rfl⟩
abbrev main_v1894 : Ref sig .tc := ⟨.hbm, 2811, rfl⟩
abbrev main_v1895 : Ref sig .tc := ⟨.hbm, 2812, rfl⟩
abbrev main_c_587 : Ref sig .tc := ⟨.hbm, 2813, rfl⟩
abbrev main_v1896 : Ref sig .tc := ⟨.hbm, 2814, rfl⟩
abbrev main_v1897 : Ref sig .tc := ⟨.hbm, 2815, rfl⟩
abbrev main_v1898 : Ref sig .tc := ⟨.hbm, 2816, rfl⟩
abbrev main_c_588 : Ref sig .tc := ⟨.hbm, 2817, rfl⟩
abbrev main_v1899 : Ref sig .tc := ⟨.hbm, 2818, rfl⟩
abbrev main_v1900 : Ref sig .tc := ⟨.hbm, 2819, rfl⟩
abbrev main_c_589 : Ref sig .tc := ⟨.hbm, 2820, rfl⟩
abbrev main_v1901 : Ref sig .tc := ⟨.hbm, 2821, rfl⟩
abbrev main_v1902 : Ref sig .tc := ⟨.hbm, 2822, rfl⟩
abbrev main_v1903 : Ref sig .tc := ⟨.hbm, 2823, rfl⟩
abbrev main_v1904 : Ref sig .tc := ⟨.hbm, 2824, rfl⟩
abbrev main_v1905 : Ref sig .tc := ⟨.hbm, 2825, rfl⟩
abbrev main_v1906 : Ref sig .tc := ⟨.hbm, 2826, rfl⟩
abbrev main_v1907 : Ref sig .tc := ⟨.hbm, 2827, rfl⟩
abbrev main_cst_590 : Ref sig .tc := ⟨.hbm, 2828, rfl⟩
abbrev main_v1908 : Ref sig .tc := ⟨.hbm, 2829, rfl⟩
abbrev main_v1909 : Ref sig .tc := ⟨.hbm, 2830, rfl⟩
abbrev main_v1910 : Ref sig .tc := ⟨.hbm, 2831, rfl⟩
abbrev main_v1911 : Ref sig .tc := ⟨.hbm, 2832, rfl⟩
abbrev main_v1912 : Ref sig .tc := ⟨.hbm, 2833, rfl⟩
abbrev main_cst_591 : Ref sig .tc := ⟨.hbm, 2834, rfl⟩
abbrev main_v1913 : Ref sig .tc := ⟨.hbm, 2835, rfl⟩
abbrev main_v1914 : Ref sig .tc := ⟨.hbm, 2836, rfl⟩
abbrev main_v1915 : Ref sig .tc := ⟨.hbm, 2837, rfl⟩
abbrev main_v1916 : Ref sig .tc := ⟨.hbm, 2838, rfl⟩
abbrev main_v1917 : Ref sig .tc := ⟨.hbm, 2839, rfl⟩
abbrev main_v1918 : Ref sig .tc := ⟨.hbm, 2840, rfl⟩
abbrev main_v1919 : Ref sig .tc := ⟨.hbm, 2841, rfl⟩
abbrev main_v1920 : Ref sig .tc := ⟨.hbm, 2842, rfl⟩
abbrev main_cst_592 : Ref sig .tc := ⟨.hbm, 2843, rfl⟩
abbrev main_v1921 : Ref sig .tc := ⟨.hbm, 2844, rfl⟩
abbrev main_v1922 : Ref sig .tc := ⟨.hbm, 2845, rfl⟩
abbrev main_v1923 : Ref sig .tc := ⟨.hbm, 2846, rfl⟩
abbrev main_v1924 : Ref sig .tc := ⟨.hbm, 2847, rfl⟩
abbrev main_v1925 : Ref sig .tc := ⟨.hbm, 2848, rfl⟩
abbrev main_v1926 : Ref sig .tc := ⟨.hbm, 2849, rfl⟩
abbrev main_cst_593 : Ref sig .tc := ⟨.hbm, 2850, rfl⟩
abbrev main_v1927 : Ref sig .tc := ⟨.hbm, 2851, rfl⟩
abbrev main_v1928 : Ref sig .tc := ⟨.hbm, 2852, rfl⟩
abbrev main_v1929 : Ref sig .tc := ⟨.hbm, 2853, rfl⟩
abbrev main_v1930 : Ref sig .tc := ⟨.hbm, 2854, rfl⟩
abbrev main_v1931 : Ref sig .tc := ⟨.hbm, 2855, rfl⟩
abbrev main_v1932 : Ref sig .tc := ⟨.hbm, 2856, rfl⟩
abbrev main_v1933 : Ref sig .tc := ⟨.hbm, 2857, rfl⟩
abbrev main_v1934 : Ref sig .tc := ⟨.hbm, 2858, rfl⟩
abbrev main_v1935 : Ref sig .tc := ⟨.hbm, 2859, rfl⟩
abbrev main_v1936 : Ref sig .tc := ⟨.hbm, 2860, rfl⟩
abbrev main_v1937 : Ref sig .tc := ⟨.hbm, 2861, rfl⟩
abbrev main_v1938 : Ref sig .tc := ⟨.hbm, 2862, rfl⟩
abbrev main_v1939 : Ref sig .tc := ⟨.hbm, 2863, rfl⟩
abbrev main_v1940 : Ref sig .tc := ⟨.hbm, 2864, rfl⟩
abbrev main_v1941 : Ref sig .tc := ⟨.hbm, 2865, rfl⟩
abbrev main_v1942 : Ref sig .tc := ⟨.hbm, 2866, rfl⟩
abbrev main_v1943 : Ref sig .tc := ⟨.hbm, 2867, rfl⟩
abbrev main_c_594 : Ref sig .tc := ⟨.hbm, 2868, rfl⟩
abbrev main_v1944 : Ref sig .tc := ⟨.hbm, 2869, rfl⟩
abbrev main_v1945 : Ref sig .tc := ⟨.hbm, 2870, rfl⟩
abbrev main_c_595 : Ref sig .tc := ⟨.hbm, 2871, rfl⟩
abbrev main_v1946 : Ref sig .tc := ⟨.hbm, 2872, rfl⟩
abbrev main_v1947 : Ref sig .tc := ⟨.hbm, 2873, rfl⟩
abbrev main_v1948 : Ref sig .tc := ⟨.hbm, 2874, rfl⟩
abbrev main_v1949 : Ref sig .tc := ⟨.hbm, 2875, rfl⟩
abbrev main_v1950 : Ref sig .tc := ⟨.hbm, 2876, rfl⟩
abbrev main_v1951 : Ref sig .tc := ⟨.hbm, 2877, rfl⟩
abbrev main_v1952 : Ref sig .tc := ⟨.hbm, 2878, rfl⟩
abbrev main_cst_596 : Ref sig .tc := ⟨.hbm, 2879, rfl⟩
abbrev main_v1953 : Ref sig .tc := ⟨.hbm, 2880, rfl⟩
abbrev main_v1954 : Ref sig .tc := ⟨.hbm, 2881, rfl⟩
abbrev main_cst_597 : Ref sig .tc := ⟨.hbm, 2882, rfl⟩
abbrev main_v1955 : Ref sig .tc := ⟨.hbm, 2883, rfl⟩
abbrev main_v1956 : Ref sig .tc := ⟨.hbm, 2884, rfl⟩
abbrev main_cst_598 : Ref sig .tc := ⟨.hbm, 2885, rfl⟩
abbrev main_v1957 : Ref sig .tc := ⟨.hbm, 2886, rfl⟩
abbrev main_v1958 : Ref sig .tc := ⟨.hbm, 2887, rfl⟩
abbrev main_v1959 : Ref sig .tc := ⟨.hbm, 2888, rfl⟩
abbrev main_v1960 : Ref sig .tc := ⟨.hbm, 2889, rfl⟩
abbrev main_cst_599 : Ref sig .tc := ⟨.hbm, 2890, rfl⟩
abbrev main_v1961 : Ref sig .tc := ⟨.hbm, 2891, rfl⟩
abbrev main_v1962 : Ref sig .tc := ⟨.hbm, 2892, rfl⟩
abbrev main_cst_600 : Ref sig .tc := ⟨.hbm, 2893, rfl⟩
abbrev main_v1963 : Ref sig .tc := ⟨.hbm, 2894, rfl⟩
abbrev main_v1964 : Ref sig .tc := ⟨.hbm, 2895, rfl⟩
abbrev main_cst_601 : Ref sig .tc := ⟨.hbm, 2896, rfl⟩
abbrev main_v1965 : Ref sig .tc := ⟨.hbm, 2897, rfl⟩
abbrev main_v1966 : Ref sig .tc := ⟨.hbm, 2898, rfl⟩
abbrev main_v1967 : Ref sig .tc := ⟨.hbm, 2899, rfl⟩
abbrev main_v1968 : Ref sig .tc := ⟨.hbm, 2900, rfl⟩
abbrev main_v1969 : Ref sig .tc := ⟨.hbm, 2901, rfl⟩
abbrev main_v1970 : Ref sig .tc := ⟨.hbm, 2902, rfl⟩
abbrev main_v1971 : Ref sig .tc := ⟨.hbm, 2903, rfl⟩
abbrev main_c_602 : Ref sig .tc := ⟨.hbm, 2904, rfl⟩
abbrev main_c_603 : Ref sig .tc := ⟨.hbm, 2905, rfl⟩
abbrev main_call60_v0 : Ref sig .tc := ⟨.hbm, 2906, rfl⟩
abbrev main_call60_v1 : Ref sig .tc := ⟨.hbm, 2907, rfl⟩
abbrev main_call60_v2 : Ref sig .tc := ⟨.hbm, 2908, rfl⟩
abbrev main_call60_v3 : Ref sig .tc := ⟨.hbm, 2909, rfl⟩
abbrev main_call60_v4 : Ref sig .tc := ⟨.hbm, 2910, rfl⟩
abbrev main_v1972 : Ref sig .tc := ⟨.hbm, 2911, rfl⟩
abbrev main_c_604 : Ref sig .tc := ⟨.hbm, 2912, rfl⟩
abbrev main_v1973 : Ref sig .tc := ⟨.hbm, 2913, rfl⟩
abbrev main_v1974 : Ref sig .tc := ⟨.hbm, 2914, rfl⟩
abbrev main_c_605 : Ref sig .tc := ⟨.hbm, 2915, rfl⟩
abbrev main_c_606 : Ref sig .tc := ⟨.hbm, 2916, rfl⟩
abbrev main_call61_v0 : Ref sig .tc := ⟨.hbm, 2917, rfl⟩
abbrev main_call61_v1 : Ref sig .tc := ⟨.hbm, 2918, rfl⟩
abbrev main_call61_v2 : Ref sig .tc := ⟨.hbm, 2919, rfl⟩
abbrev main_call61_v3 : Ref sig .tc := ⟨.hbm, 2920, rfl⟩
abbrev main_call61_v4 : Ref sig .tc := ⟨.hbm, 2921, rfl⟩
abbrev main_v1975 : Ref sig .tc := ⟨.hbm, 2922, rfl⟩
abbrev main_v1976 : Ref sig .tc := ⟨.hbm, 2923, rfl⟩
abbrev main_c_607 : Ref sig .tc := ⟨.hbm, 2924, rfl⟩
abbrev main_c_608 : Ref sig .tc := ⟨.hbm, 2925, rfl⟩
abbrev main_call62_v0 : Ref sig .tc := ⟨.hbm, 2926, rfl⟩
abbrev main_call62_v1 : Ref sig .tc := ⟨.hbm, 2927, rfl⟩
abbrev main_call62_v2 : Ref sig .tc := ⟨.hbm, 2928, rfl⟩
abbrev main_call62_v3 : Ref sig .tc := ⟨.hbm, 2929, rfl⟩
abbrev main_call62_v4 : Ref sig .tc := ⟨.hbm, 2930, rfl⟩
abbrev main_v1977 : Ref sig .tc := ⟨.hbm, 2931, rfl⟩
abbrev main_c_609 : Ref sig .tc := ⟨.hbm, 2932, rfl⟩
abbrev main_v1978 : Ref sig .tc := ⟨.hbm, 2933, rfl⟩
abbrev main_v1979 : Ref sig .tc := ⟨.hbm, 2934, rfl⟩
abbrev main_c_610 : Ref sig .tc := ⟨.hbm, 2935, rfl⟩
abbrev main_c_611 : Ref sig .tc := ⟨.hbm, 2936, rfl⟩
abbrev main_call63_v0 : Ref sig .tc := ⟨.hbm, 2937, rfl⟩
abbrev main_call63_v1 : Ref sig .tc := ⟨.hbm, 2938, rfl⟩
abbrev main_call63_v2 : Ref sig .tc := ⟨.hbm, 2939, rfl⟩
abbrev main_call63_v3 : Ref sig .tc := ⟨.hbm, 2940, rfl⟩
abbrev main_call63_v4 : Ref sig .tc := ⟨.hbm, 2941, rfl⟩
abbrev main_v1980 : Ref sig .tc := ⟨.hbm, 2942, rfl⟩
abbrev main_c_612 : Ref sig .tc := ⟨.hbm, 2943, rfl⟩
abbrev main_v1981 : Ref sig .tc := ⟨.hbm, 2944, rfl⟩
abbrev main_v1982 : Ref sig .tc := ⟨.hbm, 2945, rfl⟩
abbrev main_c_613 : Ref sig .tc := ⟨.hbm, 2946, rfl⟩
abbrev main_v1983 : Ref sig .tc := ⟨.hbm, 2947, rfl⟩
abbrev main_v1984 : Ref sig .tc := ⟨.hbm, 2948, rfl⟩
abbrev main_v1985 : Ref sig .tc := ⟨.hbm, 2949, rfl⟩
abbrev main_c_614 : Ref sig .tc := ⟨.hbm, 2950, rfl⟩
abbrev main_v1986 : Ref sig .tc := ⟨.hbm, 2951, rfl⟩
abbrev main_v1987 : Ref sig .tc := ⟨.hbm, 2952, rfl⟩
abbrev main_c_615 : Ref sig .tc := ⟨.hbm, 2953, rfl⟩
abbrev main_v1988 : Ref sig .tc := ⟨.hbm, 2954, rfl⟩
abbrev main_v1989 : Ref sig .tc := ⟨.hbm, 2955, rfl⟩
abbrev main_v1990 : Ref sig .tc := ⟨.hbm, 2956, rfl⟩
abbrev main_v1991 : Ref sig .tc := ⟨.hbm, 2957, rfl⟩
abbrev main_v1992 : Ref sig .tc := ⟨.hbm, 2958, rfl⟩
abbrev main_v1993 : Ref sig .tc := ⟨.hbm, 2959, rfl⟩
abbrev main_v1994 : Ref sig .tc := ⟨.hbm, 2960, rfl⟩
abbrev main_c_616 : Ref sig .tc := ⟨.hbm, 2961, rfl⟩
abbrev main_v1995 : Ref sig .tc := ⟨.hbm, 2962, rfl⟩
abbrev main_v1996 : Ref sig .tc := ⟨.hbm, 2963, rfl⟩
abbrev main_c_617 : Ref sig .tc := ⟨.hbm, 2964, rfl⟩
abbrev main_v1997 : Ref sig .tc := ⟨.hbm, 2965, rfl⟩
abbrev main_v1998 : Ref sig .tc := ⟨.hbm, 2966, rfl⟩
abbrev main_v1999 : Ref sig .tc := ⟨.hbm, 2967, rfl⟩
abbrev main_c_618 : Ref sig .tc := ⟨.hbm, 2968, rfl⟩
abbrev main_v2000 : Ref sig .tc := ⟨.hbm, 2969, rfl⟩
abbrev main_v2001 : Ref sig .tc := ⟨.hbm, 2970, rfl⟩
abbrev main_c_619 : Ref sig .tc := ⟨.hbm, 2971, rfl⟩
abbrev main_v2002 : Ref sig .tc := ⟨.hbm, 2972, rfl⟩
abbrev main_v2003 : Ref sig .tc := ⟨.hbm, 2973, rfl⟩
abbrev main_v2004 : Ref sig .tc := ⟨.hbm, 2974, rfl⟩
abbrev main_v2005 : Ref sig .tc := ⟨.hbm, 2975, rfl⟩
abbrev main_v2006 : Ref sig .tc := ⟨.hbm, 2976, rfl⟩
abbrev main_v2007 : Ref sig .tc := ⟨.hbm, 2977, rfl⟩
abbrev main_v2008 : Ref sig .tc := ⟨.hbm, 2978, rfl⟩
abbrev main_c_620 : Ref sig .tc := ⟨.hbm, 2979, rfl⟩
abbrev main_v2009 : Ref sig .tc := ⟨.hbm, 2980, rfl⟩
abbrev main_v2010 : Ref sig .tc := ⟨.hbm, 2981, rfl⟩
abbrev main_c_621 : Ref sig .tc := ⟨.hbm, 2982, rfl⟩
abbrev main_v2011 : Ref sig .tc := ⟨.hbm, 2983, rfl⟩
abbrev main_v2012 : Ref sig .tc := ⟨.hbm, 2984, rfl⟩
abbrev main_v2013 : Ref sig .tc := ⟨.hbm, 2985, rfl⟩
abbrev main_c_622 : Ref sig .tc := ⟨.hbm, 2986, rfl⟩
abbrev main_v2014 : Ref sig .tc := ⟨.hbm, 2987, rfl⟩
abbrev main_v2015 : Ref sig .tc := ⟨.hbm, 2988, rfl⟩
abbrev main_c_623 : Ref sig .tc := ⟨.hbm, 2989, rfl⟩
abbrev main_v2016 : Ref sig .tc := ⟨.hbm, 2990, rfl⟩
abbrev main_v2017 : Ref sig .tc := ⟨.hbm, 2991, rfl⟩
abbrev main_v2018 : Ref sig .tc := ⟨.hbm, 2992, rfl⟩
abbrev main_v2019 : Ref sig .tc := ⟨.hbm, 2993, rfl⟩
abbrev main_v2020 : Ref sig .tc := ⟨.hbm, 2994, rfl⟩
abbrev main_v2021 : Ref sig .tc := ⟨.hbm, 2995, rfl⟩
abbrev main_v2022 : Ref sig .tc := ⟨.hbm, 2996, rfl⟩
abbrev main_c_624 : Ref sig .tc := ⟨.hbm, 2997, rfl⟩
abbrev main_v2023 : Ref sig .tc := ⟨.hbm, 2998, rfl⟩
abbrev main_v2024 : Ref sig .tc := ⟨.hbm, 2999, rfl⟩
abbrev main_c_625 : Ref sig .tc := ⟨.hbm, 3000, rfl⟩
abbrev main_v2025 : Ref sig .tc := ⟨.hbm, 3001, rfl⟩
abbrev main_v2026 : Ref sig .tc := ⟨.hbm, 3002, rfl⟩
abbrev main_v2027 : Ref sig .tc := ⟨.hbm, 3003, rfl⟩
abbrev main_c_626 : Ref sig .tc := ⟨.hbm, 3004, rfl⟩
abbrev main_v2028 : Ref sig .tc := ⟨.hbm, 3005, rfl⟩
abbrev main_v2029 : Ref sig .tc := ⟨.hbm, 3006, rfl⟩
abbrev main_c_627 : Ref sig .tc := ⟨.hbm, 3007, rfl⟩
abbrev main_v2030 : Ref sig .tc := ⟨.hbm, 3008, rfl⟩
abbrev main_v2031 : Ref sig .tc := ⟨.hbm, 3009, rfl⟩
abbrev main_v2032 : Ref sig .tc := ⟨.hbm, 3010, rfl⟩
abbrev main_v2033 : Ref sig .tc := ⟨.hbm, 3011, rfl⟩
abbrev main_v2034 : Ref sig .tc := ⟨.hbm, 3012, rfl⟩
abbrev main_v2035 : Ref sig .tc := ⟨.hbm, 3013, rfl⟩
abbrev main_v2036 : Ref sig .tc := ⟨.hbm, 3014, rfl⟩
abbrev main_cst_628 : Ref sig .tc := ⟨.hbm, 3015, rfl⟩
abbrev main_v2037 : Ref sig .tc := ⟨.hbm, 3016, rfl⟩
abbrev main_v2038 : Ref sig .tc := ⟨.hbm, 3017, rfl⟩
abbrev main_v2039 : Ref sig .tc := ⟨.hbm, 3018, rfl⟩
abbrev main_v2040 : Ref sig .tc := ⟨.hbm, 3019, rfl⟩
abbrev main_v2041 : Ref sig .tc := ⟨.hbm, 3020, rfl⟩
abbrev main_cst_629 : Ref sig .tc := ⟨.hbm, 3021, rfl⟩
abbrev main_v2042 : Ref sig .tc := ⟨.hbm, 3022, rfl⟩
abbrev main_v2043 : Ref sig .tc := ⟨.hbm, 3023, rfl⟩
abbrev main_v2044 : Ref sig .tc := ⟨.hbm, 3024, rfl⟩
abbrev main_v2045 : Ref sig .tc := ⟨.hbm, 3025, rfl⟩
abbrev main_v2046 : Ref sig .tc := ⟨.hbm, 3026, rfl⟩
abbrev main_v2047 : Ref sig .tc := ⟨.hbm, 3027, rfl⟩
abbrev main_v2048 : Ref sig .tc := ⟨.hbm, 3028, rfl⟩
abbrev main_v2049 : Ref sig .tc := ⟨.hbm, 3029, rfl⟩
abbrev main_cst_630 : Ref sig .tc := ⟨.hbm, 3030, rfl⟩
abbrev main_v2050 : Ref sig .tc := ⟨.hbm, 3031, rfl⟩
abbrev main_v2051 : Ref sig .tc := ⟨.hbm, 3032, rfl⟩
abbrev main_v2052 : Ref sig .tc := ⟨.hbm, 3033, rfl⟩
abbrev main_v2053 : Ref sig .tc := ⟨.hbm, 3034, rfl⟩
abbrev main_v2054 : Ref sig .tc := ⟨.hbm, 3035, rfl⟩
abbrev main_v2055 : Ref sig .tc := ⟨.hbm, 3036, rfl⟩
abbrev main_cst_631 : Ref sig .tc := ⟨.hbm, 3037, rfl⟩
abbrev main_v2056 : Ref sig .tc := ⟨.hbm, 3038, rfl⟩
abbrev main_v2057 : Ref sig .tc := ⟨.hbm, 3039, rfl⟩
abbrev main_v2058 : Ref sig .tc := ⟨.hbm, 3040, rfl⟩
abbrev main_v2059 : Ref sig .tc := ⟨.hbm, 3041, rfl⟩
abbrev main_v2060 : Ref sig .tc := ⟨.hbm, 3042, rfl⟩
abbrev main_v2061 : Ref sig .tc := ⟨.hbm, 3043, rfl⟩
abbrev main_v2062 : Ref sig .tc := ⟨.hbm, 3044, rfl⟩
abbrev main_v2063 : Ref sig .tc := ⟨.hbm, 3045, rfl⟩
abbrev main_v2064 : Ref sig .tc := ⟨.hbm, 3046, rfl⟩
abbrev main_v2065 : Ref sig .tc := ⟨.hbm, 3047, rfl⟩
abbrev main_v2066 : Ref sig .tc := ⟨.hbm, 3048, rfl⟩
abbrev main_v2067 : Ref sig .tc := ⟨.hbm, 3049, rfl⟩
abbrev main_v2068 : Ref sig .tc := ⟨.hbm, 3050, rfl⟩
abbrev main_v2069 : Ref sig .tc := ⟨.hbm, 3051, rfl⟩
abbrev main_v2070 : Ref sig .tc := ⟨.hbm, 3052, rfl⟩
abbrev main_v2071 : Ref sig .tc := ⟨.hbm, 3053, rfl⟩
abbrev main_v2072 : Ref sig .tc := ⟨.hbm, 3054, rfl⟩
abbrev main_c_632 : Ref sig .tc := ⟨.hbm, 3055, rfl⟩
abbrev main_v2073 : Ref sig .tc := ⟨.hbm, 3056, rfl⟩
abbrev main_v2074 : Ref sig .tc := ⟨.hbm, 3057, rfl⟩
abbrev main_c_633 : Ref sig .tc := ⟨.hbm, 3058, rfl⟩
abbrev main_v2075 : Ref sig .tc := ⟨.hbm, 3059, rfl⟩
abbrev main_v2076 : Ref sig .tc := ⟨.hbm, 3060, rfl⟩
abbrev main_v2077 : Ref sig .tc := ⟨.hbm, 3061, rfl⟩
abbrev main_v2078 : Ref sig .tc := ⟨.hbm, 3062, rfl⟩
abbrev main_v2079 : Ref sig .tc := ⟨.hbm, 3063, rfl⟩
abbrev main_v2080 : Ref sig .tc := ⟨.hbm, 3064, rfl⟩
abbrev main_v2081 : Ref sig .tc := ⟨.hbm, 3065, rfl⟩
abbrev main_cst_634 : Ref sig .tc := ⟨.hbm, 3066, rfl⟩
abbrev main_v2082 : Ref sig .tc := ⟨.hbm, 3067, rfl⟩
abbrev main_v2083 : Ref sig .tc := ⟨.hbm, 3068, rfl⟩
abbrev main_cst_635 : Ref sig .tc := ⟨.hbm, 3069, rfl⟩
abbrev main_v2084 : Ref sig .tc := ⟨.hbm, 3070, rfl⟩
abbrev main_v2085 : Ref sig .tc := ⟨.hbm, 3071, rfl⟩
abbrev main_cst_636 : Ref sig .tc := ⟨.hbm, 3072, rfl⟩
abbrev main_v2086 : Ref sig .tc := ⟨.hbm, 3073, rfl⟩
abbrev main_v2087 : Ref sig .tc := ⟨.hbm, 3074, rfl⟩
abbrev main_v2088 : Ref sig .tc := ⟨.hbm, 3075, rfl⟩
abbrev main_v2089 : Ref sig .tc := ⟨.hbm, 3076, rfl⟩
abbrev main_cst_637 : Ref sig .tc := ⟨.hbm, 3077, rfl⟩
abbrev main_v2090 : Ref sig .tc := ⟨.hbm, 3078, rfl⟩
abbrev main_v2091 : Ref sig .tc := ⟨.hbm, 3079, rfl⟩
abbrev main_cst_638 : Ref sig .tc := ⟨.hbm, 3080, rfl⟩
abbrev main_v2092 : Ref sig .tc := ⟨.hbm, 3081, rfl⟩
abbrev main_v2093 : Ref sig .tc := ⟨.hbm, 3082, rfl⟩
abbrev main_cst_639 : Ref sig .tc := ⟨.hbm, 3083, rfl⟩
abbrev main_v2094 : Ref sig .tc := ⟨.hbm, 3084, rfl⟩
abbrev main_v2095 : Ref sig .tc := ⟨.hbm, 3085, rfl⟩
abbrev main_v2096 : Ref sig .tc := ⟨.hbm, 3086, rfl⟩
abbrev main_v2097 : Ref sig .tc := ⟨.hbm, 3087, rfl⟩
abbrev main_v2098 : Ref sig .tc := ⟨.hbm, 3088, rfl⟩
abbrev main_v2099 : Ref sig .tc := ⟨.hbm, 3089, rfl⟩
abbrev main_v2100 : Ref sig .tc := ⟨.hbm, 3090, rfl⟩
abbrev main_c_640 : Ref sig .tc := ⟨.hbm, 3091, rfl⟩
abbrev main_c_641 : Ref sig .tc := ⟨.hbm, 3092, rfl⟩
abbrev main_call64_v0 : Ref sig .tc := ⟨.hbm, 3093, rfl⟩
abbrev main_call64_v1 : Ref sig .tc := ⟨.hbm, 3094, rfl⟩
abbrev main_call64_v2 : Ref sig .tc := ⟨.hbm, 3095, rfl⟩
abbrev main_call64_v3 : Ref sig .tc := ⟨.hbm, 3096, rfl⟩
abbrev main_call64_v4 : Ref sig .tc := ⟨.hbm, 3097, rfl⟩
abbrev main_v2101 : Ref sig .tc := ⟨.hbm, 3098, rfl⟩
abbrev main_c_642 : Ref sig .tc := ⟨.hbm, 3099, rfl⟩
abbrev main_v2102 : Ref sig .tc := ⟨.hbm, 3100, rfl⟩
abbrev main_v2103 : Ref sig .tc := ⟨.hbm, 3101, rfl⟩
abbrev main_c_643 : Ref sig .tc := ⟨.hbm, 3102, rfl⟩
abbrev main_c_644 : Ref sig .tc := ⟨.hbm, 3103, rfl⟩
abbrev main_call65_v0 : Ref sig .tc := ⟨.hbm, 3104, rfl⟩
abbrev main_call65_v1 : Ref sig .tc := ⟨.hbm, 3105, rfl⟩
abbrev main_call65_v2 : Ref sig .tc := ⟨.hbm, 3106, rfl⟩
abbrev main_call65_v3 : Ref sig .tc := ⟨.hbm, 3107, rfl⟩
abbrev main_call65_v4 : Ref sig .tc := ⟨.hbm, 3108, rfl⟩
abbrev main_v2104 : Ref sig .tc := ⟨.hbm, 3109, rfl⟩
abbrev main_v2105 : Ref sig .tc := ⟨.hbm, 3110, rfl⟩
abbrev main_c_645 : Ref sig .tc := ⟨.hbm, 3111, rfl⟩
abbrev main_c_646 : Ref sig .tc := ⟨.hbm, 3112, rfl⟩
abbrev main_call66_v0 : Ref sig .tc := ⟨.hbm, 3113, rfl⟩
abbrev main_call66_v1 : Ref sig .tc := ⟨.hbm, 3114, rfl⟩
abbrev main_call66_v2 : Ref sig .tc := ⟨.hbm, 3115, rfl⟩
abbrev main_call66_v3 : Ref sig .tc := ⟨.hbm, 3116, rfl⟩
abbrev main_call66_v4 : Ref sig .tc := ⟨.hbm, 3117, rfl⟩
abbrev main_v2106 : Ref sig .tc := ⟨.hbm, 3118, rfl⟩
abbrev main_c_647 : Ref sig .tc := ⟨.hbm, 3119, rfl⟩
abbrev main_v2107 : Ref sig .tc := ⟨.hbm, 3120, rfl⟩
abbrev main_v2108 : Ref sig .tc := ⟨.hbm, 3121, rfl⟩
abbrev main_c_648 : Ref sig .tc := ⟨.hbm, 3122, rfl⟩
abbrev main_c_649 : Ref sig .tc := ⟨.hbm, 3123, rfl⟩
abbrev main_call67_v0 : Ref sig .tc := ⟨.hbm, 3124, rfl⟩
abbrev main_call67_v1 : Ref sig .tc := ⟨.hbm, 3125, rfl⟩
abbrev main_call67_v2 : Ref sig .tc := ⟨.hbm, 3126, rfl⟩
abbrev main_call67_v3 : Ref sig .tc := ⟨.hbm, 3127, rfl⟩
abbrev main_call67_v4 : Ref sig .tc := ⟨.hbm, 3128, rfl⟩
abbrev main_v2109 : Ref sig .tc := ⟨.hbm, 3129, rfl⟩
abbrev main_c_650 : Ref sig .tc := ⟨.hbm, 3130, rfl⟩
abbrev main_v2110 : Ref sig .tc := ⟨.hbm, 3131, rfl⟩
abbrev main_v2111 : Ref sig .tc := ⟨.hbm, 3132, rfl⟩
abbrev main_c_651 : Ref sig .tc := ⟨.hbm, 3133, rfl⟩
abbrev main_v2112 : Ref sig .tc := ⟨.hbm, 3134, rfl⟩
abbrev main_v2113 : Ref sig .tc := ⟨.hbm, 3135, rfl⟩
abbrev main_v2114 : Ref sig .tc := ⟨.hbm, 3136, rfl⟩
abbrev main_c_652 : Ref sig .tc := ⟨.hbm, 3137, rfl⟩
abbrev main_v2115 : Ref sig .tc := ⟨.hbm, 3138, rfl⟩
abbrev main_v2116 : Ref sig .tc := ⟨.hbm, 3139, rfl⟩
abbrev main_c_653 : Ref sig .tc := ⟨.hbm, 3140, rfl⟩
abbrev main_v2117 : Ref sig .tc := ⟨.hbm, 3141, rfl⟩
abbrev main_v2118 : Ref sig .tc := ⟨.hbm, 3142, rfl⟩
abbrev main_v2119 : Ref sig .tc := ⟨.hbm, 3143, rfl⟩
abbrev main_v2120 : Ref sig .tc := ⟨.hbm, 3144, rfl⟩
abbrev main_v2121 : Ref sig .tc := ⟨.hbm, 3145, rfl⟩
abbrev main_v2122 : Ref sig .tc := ⟨.hbm, 3146, rfl⟩
abbrev main_v2123 : Ref sig .tc := ⟨.hbm, 3147, rfl⟩
abbrev main_c_654 : Ref sig .tc := ⟨.hbm, 3148, rfl⟩
abbrev main_v2124 : Ref sig .tc := ⟨.hbm, 3149, rfl⟩
abbrev main_v2125 : Ref sig .tc := ⟨.hbm, 3150, rfl⟩
abbrev main_c_655 : Ref sig .tc := ⟨.hbm, 3151, rfl⟩
abbrev main_v2126 : Ref sig .tc := ⟨.hbm, 3152, rfl⟩
abbrev main_v2127 : Ref sig .tc := ⟨.hbm, 3153, rfl⟩
abbrev main_v2128 : Ref sig .tc := ⟨.hbm, 3154, rfl⟩
abbrev main_c_656 : Ref sig .tc := ⟨.hbm, 3155, rfl⟩
abbrev main_v2129 : Ref sig .tc := ⟨.hbm, 3156, rfl⟩
abbrev main_v2130 : Ref sig .tc := ⟨.hbm, 3157, rfl⟩
abbrev main_c_657 : Ref sig .tc := ⟨.hbm, 3158, rfl⟩
abbrev main_v2131 : Ref sig .tc := ⟨.hbm, 3159, rfl⟩
abbrev main_v2132 : Ref sig .tc := ⟨.hbm, 3160, rfl⟩
abbrev main_v2133 : Ref sig .tc := ⟨.hbm, 3161, rfl⟩
abbrev main_v2134 : Ref sig .tc := ⟨.hbm, 3162, rfl⟩
abbrev main_v2135 : Ref sig .tc := ⟨.hbm, 3163, rfl⟩
abbrev main_v2136 : Ref sig .tc := ⟨.hbm, 3164, rfl⟩
abbrev main_v2137 : Ref sig .tc := ⟨.hbm, 3165, rfl⟩
abbrev main_c_658 : Ref sig .tc := ⟨.hbm, 3166, rfl⟩
abbrev main_v2138 : Ref sig .tc := ⟨.hbm, 3167, rfl⟩
abbrev main_v2139 : Ref sig .tc := ⟨.hbm, 3168, rfl⟩
abbrev main_c_659 : Ref sig .tc := ⟨.hbm, 3169, rfl⟩
abbrev main_v2140 : Ref sig .tc := ⟨.hbm, 3170, rfl⟩
abbrev main_v2141 : Ref sig .tc := ⟨.hbm, 3171, rfl⟩
abbrev main_v2142 : Ref sig .tc := ⟨.hbm, 3172, rfl⟩
abbrev main_c_660 : Ref sig .tc := ⟨.hbm, 3173, rfl⟩
abbrev main_v2143 : Ref sig .tc := ⟨.hbm, 3174, rfl⟩
abbrev main_v2144 : Ref sig .tc := ⟨.hbm, 3175, rfl⟩
abbrev main_c_661 : Ref sig .tc := ⟨.hbm, 3176, rfl⟩
abbrev main_v2145 : Ref sig .tc := ⟨.hbm, 3177, rfl⟩
abbrev main_v2146 : Ref sig .tc := ⟨.hbm, 3178, rfl⟩
abbrev main_v2147 : Ref sig .tc := ⟨.hbm, 3179, rfl⟩
abbrev main_v2148 : Ref sig .tc := ⟨.hbm, 3180, rfl⟩
abbrev main_v2149 : Ref sig .tc := ⟨.hbm, 3181, rfl⟩
abbrev main_v2150 : Ref sig .tc := ⟨.hbm, 3182, rfl⟩
abbrev main_v2151 : Ref sig .tc := ⟨.hbm, 3183, rfl⟩
abbrev main_c_662 : Ref sig .tc := ⟨.hbm, 3184, rfl⟩
abbrev main_v2152 : Ref sig .tc := ⟨.hbm, 3185, rfl⟩
abbrev main_v2153 : Ref sig .tc := ⟨.hbm, 3186, rfl⟩
abbrev main_c_663 : Ref sig .tc := ⟨.hbm, 3187, rfl⟩
abbrev main_v2154 : Ref sig .tc := ⟨.hbm, 3188, rfl⟩
abbrev main_v2155 : Ref sig .tc := ⟨.hbm, 3189, rfl⟩
abbrev main_v2156 : Ref sig .tc := ⟨.hbm, 3190, rfl⟩
abbrev main_c_664 : Ref sig .tc := ⟨.hbm, 3191, rfl⟩
abbrev main_v2157 : Ref sig .tc := ⟨.hbm, 3192, rfl⟩
abbrev main_v2158 : Ref sig .tc := ⟨.hbm, 3193, rfl⟩
abbrev main_c_665 : Ref sig .tc := ⟨.hbm, 3194, rfl⟩
abbrev main_v2159 : Ref sig .tc := ⟨.hbm, 3195, rfl⟩
abbrev main_v2160 : Ref sig .tc := ⟨.hbm, 3196, rfl⟩
abbrev main_v2161 : Ref sig .tc := ⟨.hbm, 3197, rfl⟩
abbrev main_v2162 : Ref sig .tc := ⟨.hbm, 3198, rfl⟩
abbrev main_v2163 : Ref sig .tc := ⟨.hbm, 3199, rfl⟩
abbrev main_v2164 : Ref sig .tc := ⟨.hbm, 3200, rfl⟩
abbrev main_v2165 : Ref sig .tc := ⟨.hbm, 3201, rfl⟩
abbrev main_cst_666 : Ref sig .tc := ⟨.hbm, 3202, rfl⟩
abbrev main_v2166 : Ref sig .tc := ⟨.hbm, 3203, rfl⟩
abbrev main_v2167 : Ref sig .tc := ⟨.hbm, 3204, rfl⟩
abbrev main_v2168 : Ref sig .tc := ⟨.hbm, 3205, rfl⟩
abbrev main_v2169 : Ref sig .tc := ⟨.hbm, 3206, rfl⟩
abbrev main_v2170 : Ref sig .tc := ⟨.hbm, 3207, rfl⟩
abbrev main_cst_667 : Ref sig .tc := ⟨.hbm, 3208, rfl⟩
abbrev main_v2171 : Ref sig .tc := ⟨.hbm, 3209, rfl⟩
abbrev main_v2172 : Ref sig .tc := ⟨.hbm, 3210, rfl⟩
abbrev main_v2173 : Ref sig .tc := ⟨.hbm, 3211, rfl⟩
abbrev main_v2174 : Ref sig .tc := ⟨.hbm, 3212, rfl⟩
abbrev main_v2175 : Ref sig .tc := ⟨.hbm, 3213, rfl⟩
abbrev main_v2176 : Ref sig .tc := ⟨.hbm, 3214, rfl⟩
abbrev main_v2177 : Ref sig .tc := ⟨.hbm, 3215, rfl⟩
abbrev main_v2178 : Ref sig .tc := ⟨.hbm, 3216, rfl⟩
abbrev main_cst_668 : Ref sig .tc := ⟨.hbm, 3217, rfl⟩
abbrev main_v2179 : Ref sig .tc := ⟨.hbm, 3218, rfl⟩
abbrev main_v2180 : Ref sig .tc := ⟨.hbm, 3219, rfl⟩
abbrev main_v2181 : Ref sig .tc := ⟨.hbm, 3220, rfl⟩
abbrev main_v2182 : Ref sig .tc := ⟨.hbm, 3221, rfl⟩
abbrev main_v2183 : Ref sig .tc := ⟨.hbm, 3222, rfl⟩
abbrev main_v2184 : Ref sig .tc := ⟨.hbm, 3223, rfl⟩
abbrev main_cst_669 : Ref sig .tc := ⟨.hbm, 3224, rfl⟩
abbrev main_v2185 : Ref sig .tc := ⟨.hbm, 3225, rfl⟩
abbrev main_v2186 : Ref sig .tc := ⟨.hbm, 3226, rfl⟩
abbrev main_v2187 : Ref sig .tc := ⟨.hbm, 3227, rfl⟩
abbrev main_v2188 : Ref sig .tc := ⟨.hbm, 3228, rfl⟩
abbrev main_v2189 : Ref sig .tc := ⟨.hbm, 3229, rfl⟩
abbrev main_v2190 : Ref sig .tc := ⟨.hbm, 3230, rfl⟩
abbrev main_v2191 : Ref sig .tc := ⟨.hbm, 3231, rfl⟩
abbrev main_v2192 : Ref sig .tc := ⟨.hbm, 3232, rfl⟩
abbrev main_v2193 : Ref sig .tc := ⟨.hbm, 3233, rfl⟩
abbrev main_v2194 : Ref sig .tc := ⟨.hbm, 3234, rfl⟩
abbrev main_v2195 : Ref sig .tc := ⟨.hbm, 3235, rfl⟩
abbrev main_v2196 : Ref sig .tc := ⟨.hbm, 3236, rfl⟩
abbrev main_v2197 : Ref sig .tc := ⟨.hbm, 3237, rfl⟩
abbrev main_v2198 : Ref sig .tc := ⟨.hbm, 3238, rfl⟩
abbrev main_v2199 : Ref sig .tc := ⟨.hbm, 3239, rfl⟩
abbrev main_v2200 : Ref sig .tc := ⟨.hbm, 3240, rfl⟩
abbrev main_v2201 : Ref sig .tc := ⟨.hbm, 3241, rfl⟩
abbrev main_c_670 : Ref sig .tc := ⟨.hbm, 3242, rfl⟩
abbrev main_v2202 : Ref sig .tc := ⟨.hbm, 3243, rfl⟩
abbrev main_v2203 : Ref sig .tc := ⟨.hbm, 3244, rfl⟩
abbrev main_c_671 : Ref sig .tc := ⟨.hbm, 3245, rfl⟩
abbrev main_v2204 : Ref sig .tc := ⟨.hbm, 3246, rfl⟩
abbrev main_v2205 : Ref sig .tc := ⟨.hbm, 3247, rfl⟩
abbrev main_v2206 : Ref sig .tc := ⟨.hbm, 3248, rfl⟩
abbrev main_v2207 : Ref sig .tc := ⟨.hbm, 3249, rfl⟩
abbrev main_v2208 : Ref sig .tc := ⟨.hbm, 3250, rfl⟩
abbrev main_v2209 : Ref sig .tc := ⟨.hbm, 3251, rfl⟩
abbrev main_v2210 : Ref sig .tc := ⟨.hbm, 3252, rfl⟩
abbrev main_cst_672 : Ref sig .tc := ⟨.hbm, 3253, rfl⟩
abbrev main_v2211 : Ref sig .tc := ⟨.hbm, 3254, rfl⟩
abbrev main_v2212 : Ref sig .tc := ⟨.hbm, 3255, rfl⟩
abbrev main_cst_673 : Ref sig .tc := ⟨.hbm, 3256, rfl⟩
abbrev main_v2213 : Ref sig .tc := ⟨.hbm, 3257, rfl⟩
abbrev main_v2214 : Ref sig .tc := ⟨.hbm, 3258, rfl⟩
abbrev main_cst_674 : Ref sig .tc := ⟨.hbm, 3259, rfl⟩
abbrev main_v2215 : Ref sig .tc := ⟨.hbm, 3260, rfl⟩
abbrev main_v2216 : Ref sig .tc := ⟨.hbm, 3261, rfl⟩
abbrev main_v2217 : Ref sig .tc := ⟨.hbm, 3262, rfl⟩
abbrev main_v2218 : Ref sig .tc := ⟨.hbm, 3263, rfl⟩
abbrev main_cst_675 : Ref sig .tc := ⟨.hbm, 3264, rfl⟩
abbrev main_v2219 : Ref sig .tc := ⟨.hbm, 3265, rfl⟩
abbrev main_v2220 : Ref sig .tc := ⟨.hbm, 3266, rfl⟩
abbrev main_cst_676 : Ref sig .tc := ⟨.hbm, 3267, rfl⟩
abbrev main_v2221 : Ref sig .tc := ⟨.hbm, 3268, rfl⟩
abbrev main_v2222 : Ref sig .tc := ⟨.hbm, 3269, rfl⟩
abbrev main_cst_677 : Ref sig .tc := ⟨.hbm, 3270, rfl⟩
abbrev main_v2223 : Ref sig .tc := ⟨.hbm, 3271, rfl⟩
abbrev main_v2224 : Ref sig .tc := ⟨.hbm, 3272, rfl⟩
abbrev main_v2225 : Ref sig .tc := ⟨.hbm, 3273, rfl⟩
abbrev main_v2226 : Ref sig .tc := ⟨.hbm, 3274, rfl⟩
abbrev main_v2227 : Ref sig .tc := ⟨.hbm, 3275, rfl⟩
abbrev main_v2228 : Ref sig .tc := ⟨.hbm, 3276, rfl⟩
abbrev main_v2229 : Ref sig .tc := ⟨.hbm, 3277, rfl⟩
abbrev main_c_678 : Ref sig .tc := ⟨.hbm, 3278, rfl⟩
abbrev main_c_679 : Ref sig .tc := ⟨.hbm, 3279, rfl⟩
abbrev main_call68_v0 : Ref sig .tc := ⟨.hbm, 3280, rfl⟩
abbrev main_call68_v1 : Ref sig .tc := ⟨.hbm, 3281, rfl⟩
abbrev main_call68_v2 : Ref sig .tc := ⟨.hbm, 3282, rfl⟩
abbrev main_call68_v3 : Ref sig .tc := ⟨.hbm, 3283, rfl⟩
abbrev main_call68_v4 : Ref sig .tc := ⟨.hbm, 3284, rfl⟩
abbrev main_v2230 : Ref sig .tc := ⟨.hbm, 3285, rfl⟩
abbrev main_c_680 : Ref sig .tc := ⟨.hbm, 3286, rfl⟩
abbrev main_v2231 : Ref sig .tc := ⟨.hbm, 3287, rfl⟩
abbrev main_v2232 : Ref sig .tc := ⟨.hbm, 3288, rfl⟩
abbrev main_c_681 : Ref sig .tc := ⟨.hbm, 3289, rfl⟩
abbrev main_c_682 : Ref sig .tc := ⟨.hbm, 3290, rfl⟩
abbrev main_call69_v0 : Ref sig .tc := ⟨.hbm, 3291, rfl⟩
abbrev main_call69_v1 : Ref sig .tc := ⟨.hbm, 3292, rfl⟩
abbrev main_call69_v2 : Ref sig .tc := ⟨.hbm, 3293, rfl⟩
abbrev main_call69_v3 : Ref sig .tc := ⟨.hbm, 3294, rfl⟩
abbrev main_call69_v4 : Ref sig .tc := ⟨.hbm, 3295, rfl⟩
abbrev main_v2233 : Ref sig .tc := ⟨.hbm, 3296, rfl⟩
abbrev main_v2234 : Ref sig .tc := ⟨.hbm, 3297, rfl⟩
abbrev main_c_683 : Ref sig .tc := ⟨.hbm, 3298, rfl⟩
abbrev main_c_684 : Ref sig .tc := ⟨.hbm, 3299, rfl⟩
abbrev main_call70_v0 : Ref sig .tc := ⟨.hbm, 3300, rfl⟩
abbrev main_call70_v1 : Ref sig .tc := ⟨.hbm, 3301, rfl⟩
abbrev main_call70_v2 : Ref sig .tc := ⟨.hbm, 3302, rfl⟩
abbrev main_call70_v3 : Ref sig .tc := ⟨.hbm, 3303, rfl⟩
abbrev main_call70_v4 : Ref sig .tc := ⟨.hbm, 3304, rfl⟩
abbrev main_v2235 : Ref sig .tc := ⟨.hbm, 3305, rfl⟩
abbrev main_c_685 : Ref sig .tc := ⟨.hbm, 3306, rfl⟩
abbrev main_v2236 : Ref sig .tc := ⟨.hbm, 3307, rfl⟩
abbrev main_v2237 : Ref sig .tc := ⟨.hbm, 3308, rfl⟩
abbrev main_c_686 : Ref sig .tc := ⟨.hbm, 3309, rfl⟩
abbrev main_c_687 : Ref sig .tc := ⟨.hbm, 3310, rfl⟩
abbrev main_call71_v0 : Ref sig .tc := ⟨.hbm, 3311, rfl⟩
abbrev main_call71_v1 : Ref sig .tc := ⟨.hbm, 3312, rfl⟩
abbrev main_call71_v2 : Ref sig .tc := ⟨.hbm, 3313, rfl⟩
abbrev main_call71_v3 : Ref sig .tc := ⟨.hbm, 3314, rfl⟩
abbrev main_call71_v4 : Ref sig .tc := ⟨.hbm, 3315, rfl⟩
abbrev main_v2238 : Ref sig .tc := ⟨.hbm, 3316, rfl⟩
abbrev main_c_688 : Ref sig .tc := ⟨.hbm, 3317, rfl⟩
abbrev main_v2239 : Ref sig .tc := ⟨.hbm, 3318, rfl⟩
abbrev main_v2240 : Ref sig .tc := ⟨.hbm, 3319, rfl⟩
abbrev main_c_689 : Ref sig .tc := ⟨.hbm, 3320, rfl⟩
abbrev main_v2241 : Ref sig .tc := ⟨.hbm, 3321, rfl⟩
abbrev main_v2242 : Ref sig .tc := ⟨.hbm, 3322, rfl⟩
abbrev main_v2243 : Ref sig .tc := ⟨.hbm, 3323, rfl⟩
abbrev main_c_690 : Ref sig .tc := ⟨.hbm, 3324, rfl⟩
abbrev main_v2244 : Ref sig .tc := ⟨.hbm, 3325, rfl⟩
abbrev main_v2245 : Ref sig .tc := ⟨.hbm, 3326, rfl⟩
abbrev main_c_691 : Ref sig .tc := ⟨.hbm, 3327, rfl⟩
abbrev main_v2246 : Ref sig .tc := ⟨.hbm, 3328, rfl⟩
abbrev main_v2247 : Ref sig .tc := ⟨.hbm, 3329, rfl⟩
abbrev main_v2248 : Ref sig .tc := ⟨.hbm, 3330, rfl⟩
abbrev main_v2249 : Ref sig .tc := ⟨.hbm, 3331, rfl⟩
abbrev main_v2250 : Ref sig .tc := ⟨.hbm, 3332, rfl⟩
abbrev main_v2251 : Ref sig .tc := ⟨.hbm, 3333, rfl⟩
abbrev main_v2252 : Ref sig .tc := ⟨.hbm, 3334, rfl⟩
abbrev main_c_692 : Ref sig .tc := ⟨.hbm, 3335, rfl⟩
abbrev main_v2253 : Ref sig .tc := ⟨.hbm, 3336, rfl⟩
abbrev main_v2254 : Ref sig .tc := ⟨.hbm, 3337, rfl⟩
abbrev main_c_693 : Ref sig .tc := ⟨.hbm, 3338, rfl⟩
abbrev main_v2255 : Ref sig .tc := ⟨.hbm, 3339, rfl⟩
abbrev main_v2256 : Ref sig .tc := ⟨.hbm, 3340, rfl⟩
abbrev main_v2257 : Ref sig .tc := ⟨.hbm, 3341, rfl⟩
abbrev main_c_694 : Ref sig .tc := ⟨.hbm, 3342, rfl⟩
abbrev main_v2258 : Ref sig .tc := ⟨.hbm, 3343, rfl⟩
abbrev main_v2259 : Ref sig .tc := ⟨.hbm, 3344, rfl⟩
abbrev main_c_695 : Ref sig .tc := ⟨.hbm, 3345, rfl⟩
abbrev main_v2260 : Ref sig .tc := ⟨.hbm, 3346, rfl⟩
abbrev main_v2261 : Ref sig .tc := ⟨.hbm, 3347, rfl⟩
abbrev main_v2262 : Ref sig .tc := ⟨.hbm, 3348, rfl⟩
abbrev main_v2263 : Ref sig .tc := ⟨.hbm, 3349, rfl⟩
abbrev main_v2264 : Ref sig .tc := ⟨.hbm, 3350, rfl⟩
abbrev main_v2265 : Ref sig .tc := ⟨.hbm, 3351, rfl⟩
abbrev main_v2266 : Ref sig .tc := ⟨.hbm, 3352, rfl⟩
abbrev main_c_696 : Ref sig .tc := ⟨.hbm, 3353, rfl⟩
abbrev main_v2267 : Ref sig .tc := ⟨.hbm, 3354, rfl⟩
abbrev main_v2268 : Ref sig .tc := ⟨.hbm, 3355, rfl⟩
abbrev main_c_697 : Ref sig .tc := ⟨.hbm, 3356, rfl⟩
abbrev main_v2269 : Ref sig .tc := ⟨.hbm, 3357, rfl⟩
abbrev main_v2270 : Ref sig .tc := ⟨.hbm, 3358, rfl⟩
abbrev main_v2271 : Ref sig .tc := ⟨.hbm, 3359, rfl⟩
abbrev main_c_698 : Ref sig .tc := ⟨.hbm, 3360, rfl⟩
abbrev main_v2272 : Ref sig .tc := ⟨.hbm, 3361, rfl⟩
abbrev main_v2273 : Ref sig .tc := ⟨.hbm, 3362, rfl⟩
abbrev main_c_699 : Ref sig .tc := ⟨.hbm, 3363, rfl⟩
abbrev main_v2274 : Ref sig .tc := ⟨.hbm, 3364, rfl⟩
abbrev main_v2275 : Ref sig .tc := ⟨.hbm, 3365, rfl⟩
abbrev main_v2276 : Ref sig .tc := ⟨.hbm, 3366, rfl⟩
abbrev main_v2277 : Ref sig .tc := ⟨.hbm, 3367, rfl⟩
abbrev main_v2278 : Ref sig .tc := ⟨.hbm, 3368, rfl⟩
abbrev main_v2279 : Ref sig .tc := ⟨.hbm, 3369, rfl⟩
abbrev main_v2280 : Ref sig .tc := ⟨.hbm, 3370, rfl⟩
abbrev main_c_700 : Ref sig .tc := ⟨.hbm, 3371, rfl⟩
abbrev main_v2281 : Ref sig .tc := ⟨.hbm, 3372, rfl⟩
abbrev main_v2282 : Ref sig .tc := ⟨.hbm, 3373, rfl⟩
abbrev main_c_701 : Ref sig .tc := ⟨.hbm, 3374, rfl⟩
abbrev main_v2283 : Ref sig .tc := ⟨.hbm, 3375, rfl⟩
abbrev main_v2284 : Ref sig .tc := ⟨.hbm, 3376, rfl⟩
abbrev main_v2285 : Ref sig .tc := ⟨.hbm, 3377, rfl⟩
abbrev main_c_702 : Ref sig .tc := ⟨.hbm, 3378, rfl⟩
abbrev main_v2286 : Ref sig .tc := ⟨.hbm, 3379, rfl⟩
abbrev main_v2287 : Ref sig .tc := ⟨.hbm, 3380, rfl⟩
abbrev main_c_703 : Ref sig .tc := ⟨.hbm, 3381, rfl⟩
abbrev main_v2288 : Ref sig .tc := ⟨.hbm, 3382, rfl⟩
abbrev main_v2289 : Ref sig .tc := ⟨.hbm, 3383, rfl⟩
abbrev main_v2290 : Ref sig .tc := ⟨.hbm, 3384, rfl⟩
abbrev main_v2291 : Ref sig .tc := ⟨.hbm, 3385, rfl⟩
abbrev main_v2292 : Ref sig .tc := ⟨.hbm, 3386, rfl⟩
abbrev main_v2293 : Ref sig .tc := ⟨.hbm, 3387, rfl⟩
abbrev main_v2294 : Ref sig .tc := ⟨.hbm, 3388, rfl⟩
abbrev main_cst_704 : Ref sig .tc := ⟨.hbm, 3389, rfl⟩
abbrev main_v2295 : Ref sig .tc := ⟨.hbm, 3390, rfl⟩
abbrev main_v2296 : Ref sig .tc := ⟨.hbm, 3391, rfl⟩
abbrev main_v2297 : Ref sig .tc := ⟨.hbm, 3392, rfl⟩
abbrev main_v2298 : Ref sig .tc := ⟨.hbm, 3393, rfl⟩
abbrev main_v2299 : Ref sig .tc := ⟨.hbm, 3394, rfl⟩
abbrev main_cst_705 : Ref sig .tc := ⟨.hbm, 3395, rfl⟩
abbrev main_v2300 : Ref sig .tc := ⟨.hbm, 3396, rfl⟩
abbrev main_v2301 : Ref sig .tc := ⟨.hbm, 3397, rfl⟩
abbrev main_v2302 : Ref sig .tc := ⟨.hbm, 3398, rfl⟩
abbrev main_v2303 : Ref sig .tc := ⟨.hbm, 3399, rfl⟩
abbrev main_v2304 : Ref sig .tc := ⟨.hbm, 3400, rfl⟩
abbrev main_v2305 : Ref sig .tc := ⟨.hbm, 3401, rfl⟩
abbrev main_v2306 : Ref sig .tc := ⟨.hbm, 3402, rfl⟩
abbrev main_v2307 : Ref sig .tc := ⟨.hbm, 3403, rfl⟩
abbrev main_cst_706 : Ref sig .tc := ⟨.hbm, 3404, rfl⟩
abbrev main_v2308 : Ref sig .tc := ⟨.hbm, 3405, rfl⟩
abbrev main_v2309 : Ref sig .tc := ⟨.hbm, 3406, rfl⟩
abbrev main_v2310 : Ref sig .tc := ⟨.hbm, 3407, rfl⟩
abbrev main_v2311 : Ref sig .tc := ⟨.hbm, 3408, rfl⟩
abbrev main_v2312 : Ref sig .tc := ⟨.hbm, 3409, rfl⟩
abbrev main_v2313 : Ref sig .tc := ⟨.hbm, 3410, rfl⟩
abbrev main_cst_707 : Ref sig .tc := ⟨.hbm, 3411, rfl⟩
abbrev main_v2314 : Ref sig .tc := ⟨.hbm, 3412, rfl⟩
abbrev main_v2315 : Ref sig .tc := ⟨.hbm, 3413, rfl⟩
abbrev main_v2316 : Ref sig .tc := ⟨.hbm, 3414, rfl⟩
abbrev main_v2317 : Ref sig .tc := ⟨.hbm, 3415, rfl⟩
abbrev main_v2318 : Ref sig .tc := ⟨.hbm, 3416, rfl⟩
abbrev main_v2319 : Ref sig .tc := ⟨.hbm, 3417, rfl⟩
abbrev main_v2320 : Ref sig .tc := ⟨.hbm, 3418, rfl⟩
abbrev main_v2321 : Ref sig .tc := ⟨.hbm, 3419, rfl⟩
abbrev main_v2322 : Ref sig .tc := ⟨.hbm, 3420, rfl⟩
abbrev main_v2323 : Ref sig .tc := ⟨.hbm, 3421, rfl⟩
abbrev main_v2324 : Ref sig .tc := ⟨.hbm, 3422, rfl⟩
abbrev main_v2325 : Ref sig .tc := ⟨.hbm, 3423, rfl⟩
abbrev main_v2326 : Ref sig .tc := ⟨.hbm, 3424, rfl⟩
abbrev main_v2327 : Ref sig .tc := ⟨.hbm, 3425, rfl⟩
abbrev main_v2328 : Ref sig .tc := ⟨.hbm, 3426, rfl⟩
abbrev main_v2329 : Ref sig .tc := ⟨.hbm, 3427, rfl⟩
abbrev main_v2330 : Ref sig .tc := ⟨.hbm, 3428, rfl⟩
abbrev main_c_708 : Ref sig .tc := ⟨.hbm, 3429, rfl⟩
abbrev main_v2331 : Ref sig .tc := ⟨.hbm, 3430, rfl⟩
abbrev main_v2332 : Ref sig .tc := ⟨.hbm, 3431, rfl⟩
abbrev main_c_709 : Ref sig .tc := ⟨.hbm, 3432, rfl⟩
abbrev main_v2333 : Ref sig .tc := ⟨.hbm, 3433, rfl⟩
abbrev main_v2334 : Ref sig .tc := ⟨.hbm, 3434, rfl⟩
abbrev main_v2335 : Ref sig .tc := ⟨.hbm, 3435, rfl⟩
abbrev main_v2336 : Ref sig .tc := ⟨.hbm, 3436, rfl⟩
abbrev main_v2337 : Ref sig .tc := ⟨.hbm, 3437, rfl⟩
abbrev main_v2338 : Ref sig .tc := ⟨.hbm, 3438, rfl⟩
abbrev main_v2339 : Ref sig .tc := ⟨.hbm, 3439, rfl⟩
abbrev main_cst_710 : Ref sig .tc := ⟨.hbm, 3440, rfl⟩
abbrev main_v2340 : Ref sig .tc := ⟨.hbm, 3441, rfl⟩
abbrev main_v2341 : Ref sig .tc := ⟨.hbm, 3442, rfl⟩
abbrev main_cst_711 : Ref sig .tc := ⟨.hbm, 3443, rfl⟩
abbrev main_v2342 : Ref sig .tc := ⟨.hbm, 3444, rfl⟩
abbrev main_v2343 : Ref sig .tc := ⟨.hbm, 3445, rfl⟩
abbrev main_cst_712 : Ref sig .tc := ⟨.hbm, 3446, rfl⟩
abbrev main_v2344 : Ref sig .tc := ⟨.hbm, 3447, rfl⟩
abbrev main_v2345 : Ref sig .tc := ⟨.hbm, 3448, rfl⟩
abbrev main_v2346 : Ref sig .tc := ⟨.hbm, 3449, rfl⟩
abbrev main_v2347 : Ref sig .tc := ⟨.hbm, 3450, rfl⟩
abbrev main_cst_713 : Ref sig .tc := ⟨.hbm, 3451, rfl⟩
abbrev main_v2348 : Ref sig .tc := ⟨.hbm, 3452, rfl⟩
abbrev main_v2349 : Ref sig .tc := ⟨.hbm, 3453, rfl⟩
abbrev main_cst_714 : Ref sig .tc := ⟨.hbm, 3454, rfl⟩
abbrev main_v2350 : Ref sig .tc := ⟨.hbm, 3455, rfl⟩
abbrev main_v2351 : Ref sig .tc := ⟨.hbm, 3456, rfl⟩
abbrev main_cst_715 : Ref sig .tc := ⟨.hbm, 3457, rfl⟩
abbrev main_v2352 : Ref sig .tc := ⟨.hbm, 3458, rfl⟩
abbrev main_v2353 : Ref sig .tc := ⟨.hbm, 3459, rfl⟩
abbrev main_v2354 : Ref sig .tc := ⟨.hbm, 3460, rfl⟩
abbrev main_v2355 : Ref sig .tc := ⟨.hbm, 3461, rfl⟩
abbrev main_v2356 : Ref sig .tc := ⟨.hbm, 3462, rfl⟩
abbrev main_v2357 : Ref sig .tc := ⟨.hbm, 3463, rfl⟩
abbrev main_v2358 : Ref sig .tc := ⟨.hbm, 3464, rfl⟩
abbrev main_c_716 : Ref sig .tc := ⟨.hbm, 3465, rfl⟩
abbrev main_c_717 : Ref sig .tc := ⟨.hbm, 3466, rfl⟩
abbrev main_call72_v0 : Ref sig .tc := ⟨.hbm, 3467, rfl⟩
abbrev main_call72_v1 : Ref sig .tc := ⟨.hbm, 3468, rfl⟩
abbrev main_call72_v2 : Ref sig .tc := ⟨.hbm, 3469, rfl⟩
abbrev main_call72_v3 : Ref sig .tc := ⟨.hbm, 3470, rfl⟩
abbrev main_call72_v4 : Ref sig .tc := ⟨.hbm, 3471, rfl⟩
abbrev main_v2359 : Ref sig .tc := ⟨.hbm, 3472, rfl⟩
abbrev main_c_718 : Ref sig .tc := ⟨.hbm, 3473, rfl⟩
abbrev main_v2360 : Ref sig .tc := ⟨.hbm, 3474, rfl⟩
abbrev main_v2361 : Ref sig .tc := ⟨.hbm, 3475, rfl⟩
abbrev main_c_719 : Ref sig .tc := ⟨.hbm, 3476, rfl⟩
abbrev main_c_720 : Ref sig .tc := ⟨.hbm, 3477, rfl⟩
abbrev main_call73_v0 : Ref sig .tc := ⟨.hbm, 3478, rfl⟩
abbrev main_call73_v1 : Ref sig .tc := ⟨.hbm, 3479, rfl⟩
abbrev main_call73_v2 : Ref sig .tc := ⟨.hbm, 3480, rfl⟩
abbrev main_call73_v3 : Ref sig .tc := ⟨.hbm, 3481, rfl⟩
abbrev main_call73_v4 : Ref sig .tc := ⟨.hbm, 3482, rfl⟩
abbrev main_v2362 : Ref sig .tc := ⟨.hbm, 3483, rfl⟩
abbrev main_v2363 : Ref sig .tc := ⟨.hbm, 3484, rfl⟩
abbrev main_c_721 : Ref sig .tc := ⟨.hbm, 3485, rfl⟩
abbrev main_c_722 : Ref sig .tc := ⟨.hbm, 3486, rfl⟩
abbrev main_call74_v0 : Ref sig .tc := ⟨.hbm, 3487, rfl⟩
abbrev main_call74_v1 : Ref sig .tc := ⟨.hbm, 3488, rfl⟩
abbrev main_call74_v2 : Ref sig .tc := ⟨.hbm, 3489, rfl⟩
abbrev main_call74_v3 : Ref sig .tc := ⟨.hbm, 3490, rfl⟩
abbrev main_call74_v4 : Ref sig .tc := ⟨.hbm, 3491, rfl⟩
abbrev main_v2364 : Ref sig .tc := ⟨.hbm, 3492, rfl⟩
abbrev main_c_723 : Ref sig .tc := ⟨.hbm, 3493, rfl⟩
abbrev main_v2365 : Ref sig .tc := ⟨.hbm, 3494, rfl⟩
abbrev main_v2366 : Ref sig .tc := ⟨.hbm, 3495, rfl⟩
abbrev main_c_724 : Ref sig .tc := ⟨.hbm, 3496, rfl⟩
abbrev main_c_725 : Ref sig .tc := ⟨.hbm, 3497, rfl⟩
abbrev main_call75_v0 : Ref sig .tc := ⟨.hbm, 3498, rfl⟩
abbrev main_call75_v1 : Ref sig .tc := ⟨.hbm, 3499, rfl⟩
abbrev main_call75_v2 : Ref sig .tc := ⟨.hbm, 3500, rfl⟩
abbrev main_call75_v3 : Ref sig .tc := ⟨.hbm, 3501, rfl⟩
abbrev main_call75_v4 : Ref sig .tc := ⟨.hbm, 3502, rfl⟩
abbrev main_v2367 : Ref sig .tc := ⟨.hbm, 3503, rfl⟩
abbrev main_c_726 : Ref sig .tc := ⟨.hbm, 3504, rfl⟩
abbrev main_v2368 : Ref sig .tc := ⟨.hbm, 3505, rfl⟩
abbrev main_v2369 : Ref sig .tc := ⟨.hbm, 3506, rfl⟩
abbrev main_c_727 : Ref sig .tc := ⟨.hbm, 3507, rfl⟩
abbrev main_v2370 : Ref sig .tc := ⟨.hbm, 3508, rfl⟩
abbrev main_v2371 : Ref sig .tc := ⟨.hbm, 3509, rfl⟩
abbrev main_v2372 : Ref sig .tc := ⟨.hbm, 3510, rfl⟩
abbrev main_c_728 : Ref sig .tc := ⟨.hbm, 3511, rfl⟩
abbrev main_v2373 : Ref sig .tc := ⟨.hbm, 3512, rfl⟩
abbrev main_v2374 : Ref sig .tc := ⟨.hbm, 3513, rfl⟩
abbrev main_c_729 : Ref sig .tc := ⟨.hbm, 3514, rfl⟩
abbrev main_v2375 : Ref sig .tc := ⟨.hbm, 3515, rfl⟩
abbrev main_v2376 : Ref sig .tc := ⟨.hbm, 3516, rfl⟩
abbrev main_v2377 : Ref sig .tc := ⟨.hbm, 3517, rfl⟩
abbrev main_v2378 : Ref sig .tc := ⟨.hbm, 3518, rfl⟩
abbrev main_v2379 : Ref sig .tc := ⟨.hbm, 3519, rfl⟩
abbrev main_v2380 : Ref sig .tc := ⟨.hbm, 3520, rfl⟩
abbrev main_v2381 : Ref sig .tc := ⟨.hbm, 3521, rfl⟩
abbrev main_c_730 : Ref sig .tc := ⟨.hbm, 3522, rfl⟩
abbrev main_v2382 : Ref sig .tc := ⟨.hbm, 3523, rfl⟩
abbrev main_v2383 : Ref sig .tc := ⟨.hbm, 3524, rfl⟩
abbrev main_c_731 : Ref sig .tc := ⟨.hbm, 3525, rfl⟩
abbrev main_v2384 : Ref sig .tc := ⟨.hbm, 3526, rfl⟩
abbrev main_v2385 : Ref sig .tc := ⟨.hbm, 3527, rfl⟩
abbrev main_v2386 : Ref sig .tc := ⟨.hbm, 3528, rfl⟩
abbrev main_c_732 : Ref sig .tc := ⟨.hbm, 3529, rfl⟩
abbrev main_v2387 : Ref sig .tc := ⟨.hbm, 3530, rfl⟩
abbrev main_v2388 : Ref sig .tc := ⟨.hbm, 3531, rfl⟩
abbrev main_c_733 : Ref sig .tc := ⟨.hbm, 3532, rfl⟩
abbrev main_v2389 : Ref sig .tc := ⟨.hbm, 3533, rfl⟩
abbrev main_v2390 : Ref sig .tc := ⟨.hbm, 3534, rfl⟩
abbrev main_v2391 : Ref sig .tc := ⟨.hbm, 3535, rfl⟩
abbrev main_v2392 : Ref sig .tc := ⟨.hbm, 3536, rfl⟩
abbrev main_v2393 : Ref sig .tc := ⟨.hbm, 3537, rfl⟩
abbrev main_v2394 : Ref sig .tc := ⟨.hbm, 3538, rfl⟩
abbrev main_v2395 : Ref sig .tc := ⟨.hbm, 3539, rfl⟩
abbrev main_c_734 : Ref sig .tc := ⟨.hbm, 3540, rfl⟩
abbrev main_v2396 : Ref sig .tc := ⟨.hbm, 3541, rfl⟩
abbrev main_v2397 : Ref sig .tc := ⟨.hbm, 3542, rfl⟩
abbrev main_c_735 : Ref sig .tc := ⟨.hbm, 3543, rfl⟩
abbrev main_v2398 : Ref sig .tc := ⟨.hbm, 3544, rfl⟩
abbrev main_v2399 : Ref sig .tc := ⟨.hbm, 3545, rfl⟩
abbrev main_v2400 : Ref sig .tc := ⟨.hbm, 3546, rfl⟩
abbrev main_c_736 : Ref sig .tc := ⟨.hbm, 3547, rfl⟩
abbrev main_v2401 : Ref sig .tc := ⟨.hbm, 3548, rfl⟩
abbrev main_v2402 : Ref sig .tc := ⟨.hbm, 3549, rfl⟩
abbrev main_c_737 : Ref sig .tc := ⟨.hbm, 3550, rfl⟩
abbrev main_v2403 : Ref sig .tc := ⟨.hbm, 3551, rfl⟩
abbrev main_v2404 : Ref sig .tc := ⟨.hbm, 3552, rfl⟩
abbrev main_v2405 : Ref sig .tc := ⟨.hbm, 3553, rfl⟩
abbrev main_v2406 : Ref sig .tc := ⟨.hbm, 3554, rfl⟩
abbrev main_v2407 : Ref sig .tc := ⟨.hbm, 3555, rfl⟩
abbrev main_v2408 : Ref sig .tc := ⟨.hbm, 3556, rfl⟩
abbrev main_v2409 : Ref sig .tc := ⟨.hbm, 3557, rfl⟩
abbrev main_c_738 : Ref sig .tc := ⟨.hbm, 3558, rfl⟩
abbrev main_v2410 : Ref sig .tc := ⟨.hbm, 3559, rfl⟩
abbrev main_v2411 : Ref sig .tc := ⟨.hbm, 3560, rfl⟩
abbrev main_c_739 : Ref sig .tc := ⟨.hbm, 3561, rfl⟩
abbrev main_v2412 : Ref sig .tc := ⟨.hbm, 3562, rfl⟩
abbrev main_v2413 : Ref sig .tc := ⟨.hbm, 3563, rfl⟩
abbrev main_v2414 : Ref sig .tc := ⟨.hbm, 3564, rfl⟩
abbrev main_c_740 : Ref sig .tc := ⟨.hbm, 3565, rfl⟩
abbrev main_v2415 : Ref sig .tc := ⟨.hbm, 3566, rfl⟩
abbrev main_v2416 : Ref sig .tc := ⟨.hbm, 3567, rfl⟩
abbrev main_c_741 : Ref sig .tc := ⟨.hbm, 3568, rfl⟩
abbrev main_v2417 : Ref sig .tc := ⟨.hbm, 3569, rfl⟩
abbrev main_v2418 : Ref sig .tc := ⟨.hbm, 3570, rfl⟩
abbrev main_v2419 : Ref sig .tc := ⟨.hbm, 3571, rfl⟩
abbrev main_v2420 : Ref sig .tc := ⟨.hbm, 3572, rfl⟩
abbrev main_v2421 : Ref sig .tc := ⟨.hbm, 3573, rfl⟩
abbrev main_v2422 : Ref sig .tc := ⟨.hbm, 3574, rfl⟩
abbrev main_v2423 : Ref sig .tc := ⟨.hbm, 3575, rfl⟩
abbrev main_cst_742 : Ref sig .tc := ⟨.hbm, 3576, rfl⟩
abbrev main_v2424 : Ref sig .tc := ⟨.hbm, 3577, rfl⟩
abbrev main_v2425 : Ref sig .tc := ⟨.hbm, 3578, rfl⟩
abbrev main_v2426 : Ref sig .tc := ⟨.hbm, 3579, rfl⟩
abbrev main_v2427 : Ref sig .tc := ⟨.hbm, 3580, rfl⟩
abbrev main_v2428 : Ref sig .tc := ⟨.hbm, 3581, rfl⟩
abbrev main_cst_743 : Ref sig .tc := ⟨.hbm, 3582, rfl⟩
abbrev main_v2429 : Ref sig .tc := ⟨.hbm, 3583, rfl⟩
abbrev main_v2430 : Ref sig .tc := ⟨.hbm, 3584, rfl⟩
abbrev main_v2431 : Ref sig .tc := ⟨.hbm, 3585, rfl⟩
abbrev main_v2432 : Ref sig .tc := ⟨.hbm, 3586, rfl⟩
abbrev main_v2433 : Ref sig .tc := ⟨.hbm, 3587, rfl⟩
abbrev main_v2434 : Ref sig .tc := ⟨.hbm, 3588, rfl⟩
abbrev main_v2435 : Ref sig .tc := ⟨.hbm, 3589, rfl⟩
abbrev main_v2436 : Ref sig .tc := ⟨.hbm, 3590, rfl⟩
abbrev main_cst_744 : Ref sig .tc := ⟨.hbm, 3591, rfl⟩
abbrev main_v2437 : Ref sig .tc := ⟨.hbm, 3592, rfl⟩
abbrev main_v2438 : Ref sig .tc := ⟨.hbm, 3593, rfl⟩
abbrev main_v2439 : Ref sig .tc := ⟨.hbm, 3594, rfl⟩
abbrev main_v2440 : Ref sig .tc := ⟨.hbm, 3595, rfl⟩
abbrev main_v2441 : Ref sig .tc := ⟨.hbm, 3596, rfl⟩
abbrev main_v2442 : Ref sig .tc := ⟨.hbm, 3597, rfl⟩
abbrev main_cst_745 : Ref sig .tc := ⟨.hbm, 3598, rfl⟩
abbrev main_v2443 : Ref sig .tc := ⟨.hbm, 3599, rfl⟩
abbrev main_v2444 : Ref sig .tc := ⟨.hbm, 3600, rfl⟩
abbrev main_v2445 : Ref sig .tc := ⟨.hbm, 3601, rfl⟩
abbrev main_v2446 : Ref sig .tc := ⟨.hbm, 3602, rfl⟩
abbrev main_v2447 : Ref sig .tc := ⟨.hbm, 3603, rfl⟩
abbrev main_v2448 : Ref sig .tc := ⟨.hbm, 3604, rfl⟩
abbrev main_v2449 : Ref sig .tc := ⟨.hbm, 3605, rfl⟩
abbrev main_v2450 : Ref sig .tc := ⟨.hbm, 3606, rfl⟩
abbrev main_v2451 : Ref sig .tc := ⟨.hbm, 3607, rfl⟩
abbrev main_v2452 : Ref sig .tc := ⟨.hbm, 3608, rfl⟩
abbrev main_v2453 : Ref sig .tc := ⟨.hbm, 3609, rfl⟩
abbrev main_v2454 : Ref sig .tc := ⟨.hbm, 3610, rfl⟩
abbrev main_v2455 : Ref sig .tc := ⟨.hbm, 3611, rfl⟩
abbrev main_v2456 : Ref sig .tc := ⟨.hbm, 3612, rfl⟩
abbrev main_v2457 : Ref sig .tc := ⟨.hbm, 3613, rfl⟩
abbrev main_v2458 : Ref sig .tc := ⟨.hbm, 3614, rfl⟩
abbrev main_v2459 : Ref sig .tc := ⟨.hbm, 3615, rfl⟩
abbrev main_c_746 : Ref sig .tc := ⟨.hbm, 3616, rfl⟩
abbrev main_v2460 : Ref sig .tc := ⟨.hbm, 3617, rfl⟩
abbrev main_v2461 : Ref sig .tc := ⟨.hbm, 3618, rfl⟩
abbrev main_c_747 : Ref sig .tc := ⟨.hbm, 3619, rfl⟩
abbrev main_v2462 : Ref sig .tc := ⟨.hbm, 3620, rfl⟩
abbrev main_v2463 : Ref sig .tc := ⟨.hbm, 3621, rfl⟩
abbrev main_v2464 : Ref sig .tc := ⟨.hbm, 3622, rfl⟩
abbrev main_v2465 : Ref sig .tc := ⟨.hbm, 3623, rfl⟩
abbrev main_v2466 : Ref sig .tc := ⟨.hbm, 3624, rfl⟩
abbrev main_v2467 : Ref sig .tc := ⟨.hbm, 3625, rfl⟩
abbrev main_v2468 : Ref sig .tc := ⟨.hbm, 3626, rfl⟩
abbrev main_cst_748 : Ref sig .tc := ⟨.hbm, 3627, rfl⟩
abbrev main_v2469 : Ref sig .tc := ⟨.hbm, 3628, rfl⟩
abbrev main_v2470 : Ref sig .tc := ⟨.hbm, 3629, rfl⟩
abbrev main_cst_749 : Ref sig .tc := ⟨.hbm, 3630, rfl⟩
abbrev main_v2471 : Ref sig .tc := ⟨.hbm, 3631, rfl⟩
abbrev main_v2472 : Ref sig .tc := ⟨.hbm, 3632, rfl⟩
abbrev main_cst_750 : Ref sig .tc := ⟨.hbm, 3633, rfl⟩
abbrev main_v2473 : Ref sig .tc := ⟨.hbm, 3634, rfl⟩
abbrev main_v2474 : Ref sig .tc := ⟨.hbm, 3635, rfl⟩
abbrev main_v2475 : Ref sig .tc := ⟨.hbm, 3636, rfl⟩
abbrev main_v2476 : Ref sig .tc := ⟨.hbm, 3637, rfl⟩
abbrev main_cst_751 : Ref sig .tc := ⟨.hbm, 3638, rfl⟩
abbrev main_v2477 : Ref sig .tc := ⟨.hbm, 3639, rfl⟩
abbrev main_v2478 : Ref sig .tc := ⟨.hbm, 3640, rfl⟩
abbrev main_cst_752 : Ref sig .tc := ⟨.hbm, 3641, rfl⟩
abbrev main_v2479 : Ref sig .tc := ⟨.hbm, 3642, rfl⟩
abbrev main_v2480 : Ref sig .tc := ⟨.hbm, 3643, rfl⟩
abbrev main_cst_753 : Ref sig .tc := ⟨.hbm, 3644, rfl⟩
abbrev main_v2481 : Ref sig .tc := ⟨.hbm, 3645, rfl⟩
abbrev main_v2482 : Ref sig .tc := ⟨.hbm, 3646, rfl⟩
abbrev main_v2483 : Ref sig .tc := ⟨.hbm, 3647, rfl⟩
abbrev main_v2484 : Ref sig .tc := ⟨.hbm, 3648, rfl⟩
abbrev main_v2485 : Ref sig .tc := ⟨.hbm, 3649, rfl⟩
abbrev main_v2486 : Ref sig .tc := ⟨.hbm, 3650, rfl⟩
abbrev main_v2487 : Ref sig .tc := ⟨.hbm, 3651, rfl⟩
abbrev main_c_754 : Ref sig .tc := ⟨.hbm, 3652, rfl⟩
abbrev main_c_755 : Ref sig .tc := ⟨.hbm, 3653, rfl⟩
abbrev main_call76_v0 : Ref sig .tc := ⟨.hbm, 3654, rfl⟩
abbrev main_call76_v1 : Ref sig .tc := ⟨.hbm, 3655, rfl⟩
abbrev main_call76_v2 : Ref sig .tc := ⟨.hbm, 3656, rfl⟩
abbrev main_call76_v3 : Ref sig .tc := ⟨.hbm, 3657, rfl⟩
abbrev main_call76_v4 : Ref sig .tc := ⟨.hbm, 3658, rfl⟩
abbrev main_v2488 : Ref sig .tc := ⟨.hbm, 3659, rfl⟩
abbrev main_c_756 : Ref sig .tc := ⟨.hbm, 3660, rfl⟩
abbrev main_v2489 : Ref sig .tc := ⟨.hbm, 3661, rfl⟩
abbrev main_v2490 : Ref sig .tc := ⟨.hbm, 3662, rfl⟩
abbrev main_c_757 : Ref sig .tc := ⟨.hbm, 3663, rfl⟩
abbrev main_c_758 : Ref sig .tc := ⟨.hbm, 3664, rfl⟩
abbrev main_call77_v0 : Ref sig .tc := ⟨.hbm, 3665, rfl⟩
abbrev main_call77_v1 : Ref sig .tc := ⟨.hbm, 3666, rfl⟩
abbrev main_call77_v2 : Ref sig .tc := ⟨.hbm, 3667, rfl⟩
abbrev main_call77_v3 : Ref sig .tc := ⟨.hbm, 3668, rfl⟩
abbrev main_call77_v4 : Ref sig .tc := ⟨.hbm, 3669, rfl⟩
abbrev main_v2491 : Ref sig .tc := ⟨.hbm, 3670, rfl⟩
abbrev main_v2492 : Ref sig .tc := ⟨.hbm, 3671, rfl⟩
abbrev main_c_759 : Ref sig .tc := ⟨.hbm, 3672, rfl⟩
abbrev main_c_760 : Ref sig .tc := ⟨.hbm, 3673, rfl⟩
abbrev main_call78_v0 : Ref sig .tc := ⟨.hbm, 3674, rfl⟩
abbrev main_call78_v1 : Ref sig .tc := ⟨.hbm, 3675, rfl⟩
abbrev main_call78_v2 : Ref sig .tc := ⟨.hbm, 3676, rfl⟩
abbrev main_call78_v3 : Ref sig .tc := ⟨.hbm, 3677, rfl⟩
abbrev main_call78_v4 : Ref sig .tc := ⟨.hbm, 3678, rfl⟩
abbrev main_v2493 : Ref sig .tc := ⟨.hbm, 3679, rfl⟩
abbrev main_c_761 : Ref sig .tc := ⟨.hbm, 3680, rfl⟩
abbrev main_v2494 : Ref sig .tc := ⟨.hbm, 3681, rfl⟩
abbrev main_v2495 : Ref sig .tc := ⟨.hbm, 3682, rfl⟩
abbrev main_c_762 : Ref sig .tc := ⟨.hbm, 3683, rfl⟩
abbrev main_c_763 : Ref sig .tc := ⟨.hbm, 3684, rfl⟩
abbrev main_call79_v0 : Ref sig .tc := ⟨.hbm, 3685, rfl⟩
abbrev main_call79_v1 : Ref sig .tc := ⟨.hbm, 3686, rfl⟩
abbrev main_call79_v2 : Ref sig .tc := ⟨.hbm, 3687, rfl⟩
abbrev main_call79_v3 : Ref sig .tc := ⟨.hbm, 3688, rfl⟩
abbrev main_call79_v4 : Ref sig .tc := ⟨.hbm, 3689, rfl⟩
abbrev main_v2496 : Ref sig .tc := ⟨.hbm, 3690, rfl⟩
abbrev main_c_764 : Ref sig .tc := ⟨.hbm, 3691, rfl⟩
abbrev main_v2497 : Ref sig .tc := ⟨.hbm, 3692, rfl⟩
abbrev main_v2498 : Ref sig .tc := ⟨.hbm, 3693, rfl⟩
abbrev main_c_765 : Ref sig .tc := ⟨.hbm, 3694, rfl⟩
abbrev main_v2499 : Ref sig .tc := ⟨.hbm, 3695, rfl⟩
abbrev main_v2500 : Ref sig .tc := ⟨.hbm, 3696, rfl⟩
abbrev main_v2501 : Ref sig .tc := ⟨.hbm, 3697, rfl⟩
abbrev main_c_766 : Ref sig .tc := ⟨.hbm, 3698, rfl⟩
abbrev main_v2502 : Ref sig .tc := ⟨.hbm, 3699, rfl⟩
abbrev main_v2503 : Ref sig .tc := ⟨.hbm, 3700, rfl⟩
abbrev main_c_767 : Ref sig .tc := ⟨.hbm, 3701, rfl⟩
abbrev main_v2504 : Ref sig .tc := ⟨.hbm, 3702, rfl⟩
abbrev main_v2505 : Ref sig .tc := ⟨.hbm, 3703, rfl⟩
abbrev main_v2506 : Ref sig .tc := ⟨.hbm, 3704, rfl⟩
abbrev main_v2507 : Ref sig .tc := ⟨.hbm, 3705, rfl⟩
abbrev main_v2508 : Ref sig .tc := ⟨.hbm, 3706, rfl⟩
abbrev main_v2509 : Ref sig .tc := ⟨.hbm, 3707, rfl⟩
abbrev main_v2510 : Ref sig .tc := ⟨.hbm, 3708, rfl⟩
abbrev main_c_768 : Ref sig .tc := ⟨.hbm, 3709, rfl⟩
abbrev main_v2511 : Ref sig .tc := ⟨.hbm, 3710, rfl⟩
abbrev main_v2512 : Ref sig .tc := ⟨.hbm, 3711, rfl⟩
abbrev main_c_769 : Ref sig .tc := ⟨.hbm, 3712, rfl⟩
abbrev main_v2513 : Ref sig .tc := ⟨.hbm, 3713, rfl⟩
abbrev main_v2514 : Ref sig .tc := ⟨.hbm, 3714, rfl⟩
abbrev main_v2515 : Ref sig .tc := ⟨.hbm, 3715, rfl⟩
abbrev main_c_770 : Ref sig .tc := ⟨.hbm, 3716, rfl⟩
abbrev main_v2516 : Ref sig .tc := ⟨.hbm, 3717, rfl⟩
abbrev main_v2517 : Ref sig .tc := ⟨.hbm, 3718, rfl⟩
abbrev main_c_771 : Ref sig .tc := ⟨.hbm, 3719, rfl⟩
abbrev main_v2518 : Ref sig .tc := ⟨.hbm, 3720, rfl⟩
abbrev main_v2519 : Ref sig .tc := ⟨.hbm, 3721, rfl⟩
abbrev main_v2520 : Ref sig .tc := ⟨.hbm, 3722, rfl⟩
abbrev main_v2521 : Ref sig .tc := ⟨.hbm, 3723, rfl⟩
abbrev main_v2522 : Ref sig .tc := ⟨.hbm, 3724, rfl⟩
abbrev main_v2523 : Ref sig .tc := ⟨.hbm, 3725, rfl⟩
abbrev main_v2524 : Ref sig .tc := ⟨.hbm, 3726, rfl⟩
abbrev main_c_772 : Ref sig .tc := ⟨.hbm, 3727, rfl⟩
abbrev main_v2525 : Ref sig .tc := ⟨.hbm, 3728, rfl⟩
abbrev main_v2526 : Ref sig .tc := ⟨.hbm, 3729, rfl⟩
abbrev main_c_773 : Ref sig .tc := ⟨.hbm, 3730, rfl⟩
abbrev main_v2527 : Ref sig .tc := ⟨.hbm, 3731, rfl⟩
abbrev main_v2528 : Ref sig .tc := ⟨.hbm, 3732, rfl⟩
abbrev main_v2529 : Ref sig .tc := ⟨.hbm, 3733, rfl⟩
abbrev main_c_774 : Ref sig .tc := ⟨.hbm, 3734, rfl⟩
abbrev main_v2530 : Ref sig .tc := ⟨.hbm, 3735, rfl⟩
abbrev main_v2531 : Ref sig .tc := ⟨.hbm, 3736, rfl⟩
abbrev main_c_775 : Ref sig .tc := ⟨.hbm, 3737, rfl⟩
abbrev main_v2532 : Ref sig .tc := ⟨.hbm, 3738, rfl⟩
abbrev main_v2533 : Ref sig .tc := ⟨.hbm, 3739, rfl⟩
abbrev main_v2534 : Ref sig .tc := ⟨.hbm, 3740, rfl⟩
abbrev main_v2535 : Ref sig .tc := ⟨.hbm, 3741, rfl⟩
abbrev main_v2536 : Ref sig .tc := ⟨.hbm, 3742, rfl⟩
abbrev main_v2537 : Ref sig .tc := ⟨.hbm, 3743, rfl⟩
abbrev main_v2538 : Ref sig .tc := ⟨.hbm, 3744, rfl⟩
abbrev main_c_776 : Ref sig .tc := ⟨.hbm, 3745, rfl⟩
abbrev main_v2539 : Ref sig .tc := ⟨.hbm, 3746, rfl⟩
abbrev main_v2540 : Ref sig .tc := ⟨.hbm, 3747, rfl⟩
abbrev main_c_777 : Ref sig .tc := ⟨.hbm, 3748, rfl⟩
abbrev main_v2541 : Ref sig .tc := ⟨.hbm, 3749, rfl⟩
abbrev main_v2542 : Ref sig .tc := ⟨.hbm, 3750, rfl⟩
abbrev main_v2543 : Ref sig .tc := ⟨.hbm, 3751, rfl⟩
abbrev main_c_778 : Ref sig .tc := ⟨.hbm, 3752, rfl⟩
abbrev main_v2544 : Ref sig .tc := ⟨.hbm, 3753, rfl⟩
abbrev main_v2545 : Ref sig .tc := ⟨.hbm, 3754, rfl⟩
abbrev main_c_779 : Ref sig .tc := ⟨.hbm, 3755, rfl⟩
abbrev main_v2546 : Ref sig .tc := ⟨.hbm, 3756, rfl⟩
abbrev main_v2547 : Ref sig .tc := ⟨.hbm, 3757, rfl⟩
abbrev main_v2548 : Ref sig .tc := ⟨.hbm, 3758, rfl⟩
abbrev main_v2549 : Ref sig .tc := ⟨.hbm, 3759, rfl⟩
abbrev main_v2550 : Ref sig .tc := ⟨.hbm, 3760, rfl⟩
abbrev main_v2551 : Ref sig .tc := ⟨.hbm, 3761, rfl⟩
abbrev main_v2552 : Ref sig .tc := ⟨.hbm, 3762, rfl⟩
abbrev main_cst_780 : Ref sig .tc := ⟨.hbm, 3763, rfl⟩
abbrev main_v2553 : Ref sig .tc := ⟨.hbm, 3764, rfl⟩
abbrev main_v2554 : Ref sig .tc := ⟨.hbm, 3765, rfl⟩
abbrev main_v2555 : Ref sig .tc := ⟨.hbm, 3766, rfl⟩
abbrev main_v2556 : Ref sig .tc := ⟨.hbm, 3767, rfl⟩
abbrev main_v2557 : Ref sig .tc := ⟨.hbm, 3768, rfl⟩
abbrev main_cst_781 : Ref sig .tc := ⟨.hbm, 3769, rfl⟩
abbrev main_v2558 : Ref sig .tc := ⟨.hbm, 3770, rfl⟩
abbrev main_v2559 : Ref sig .tc := ⟨.hbm, 3771, rfl⟩
abbrev main_v2560 : Ref sig .tc := ⟨.hbm, 3772, rfl⟩
abbrev main_v2561 : Ref sig .tc := ⟨.hbm, 3773, rfl⟩
abbrev main_v2562 : Ref sig .tc := ⟨.hbm, 3774, rfl⟩
abbrev main_v2563 : Ref sig .tc := ⟨.hbm, 3775, rfl⟩
abbrev main_v2564 : Ref sig .tc := ⟨.hbm, 3776, rfl⟩
abbrev main_v2565 : Ref sig .tc := ⟨.hbm, 3777, rfl⟩
abbrev main_cst_782 : Ref sig .tc := ⟨.hbm, 3778, rfl⟩
abbrev main_v2566 : Ref sig .tc := ⟨.hbm, 3779, rfl⟩
abbrev main_v2567 : Ref sig .tc := ⟨.hbm, 3780, rfl⟩
abbrev main_v2568 : Ref sig .tc := ⟨.hbm, 3781, rfl⟩
abbrev main_v2569 : Ref sig .tc := ⟨.hbm, 3782, rfl⟩
abbrev main_v2570 : Ref sig .tc := ⟨.hbm, 3783, rfl⟩
abbrev main_v2571 : Ref sig .tc := ⟨.hbm, 3784, rfl⟩
abbrev main_cst_783 : Ref sig .tc := ⟨.hbm, 3785, rfl⟩
abbrev main_v2572 : Ref sig .tc := ⟨.hbm, 3786, rfl⟩
abbrev main_v2573 : Ref sig .tc := ⟨.hbm, 3787, rfl⟩
abbrev main_v2574 : Ref sig .tc := ⟨.hbm, 3788, rfl⟩
abbrev main_v2575 : Ref sig .tc := ⟨.hbm, 3789, rfl⟩
abbrev main_v2576 : Ref sig .tc := ⟨.hbm, 3790, rfl⟩
abbrev main_v2577 : Ref sig .tc := ⟨.hbm, 3791, rfl⟩
abbrev main_v2578 : Ref sig .tc := ⟨.hbm, 3792, rfl⟩
abbrev main_v2579 : Ref sig .tc := ⟨.hbm, 3793, rfl⟩
abbrev main_v2580 : Ref sig .tc := ⟨.hbm, 3794, rfl⟩
abbrev main_v2581 : Ref sig .tc := ⟨.hbm, 3795, rfl⟩
abbrev main_v2582 : Ref sig .tc := ⟨.hbm, 3796, rfl⟩
abbrev main_v2583 : Ref sig .tc := ⟨.hbm, 3797, rfl⟩
abbrev main_v2584 : Ref sig .tc := ⟨.hbm, 3798, rfl⟩
abbrev main_v2585 : Ref sig .tc := ⟨.hbm, 3799, rfl⟩
abbrev main_v2586 : Ref sig .tc := ⟨.hbm, 3800, rfl⟩
abbrev main_v2587 : Ref sig .tc := ⟨.hbm, 3801, rfl⟩
abbrev main_v2588 : Ref sig .tc := ⟨.hbm, 3802, rfl⟩
abbrev main_c_784 : Ref sig .tc := ⟨.hbm, 3803, rfl⟩
abbrev main_v2589 : Ref sig .tc := ⟨.hbm, 3804, rfl⟩
abbrev main_v2590 : Ref sig .tc := ⟨.hbm, 3805, rfl⟩
abbrev main_c_785 : Ref sig .tc := ⟨.hbm, 3806, rfl⟩
abbrev main_v2591 : Ref sig .tc := ⟨.hbm, 3807, rfl⟩
abbrev main_v2592 : Ref sig .tc := ⟨.hbm, 3808, rfl⟩
abbrev main_v2593 : Ref sig .tc := ⟨.hbm, 3809, rfl⟩
abbrev main_v2594 : Ref sig .tc := ⟨.hbm, 3810, rfl⟩
abbrev main_v2595 : Ref sig .tc := ⟨.hbm, 3811, rfl⟩
abbrev main_v2596 : Ref sig .tc := ⟨.hbm, 3812, rfl⟩
abbrev main_v2597 : Ref sig .tc := ⟨.hbm, 3813, rfl⟩
abbrev main_cst_786 : Ref sig .tc := ⟨.hbm, 3814, rfl⟩
abbrev main_v2598 : Ref sig .tc := ⟨.hbm, 3815, rfl⟩
abbrev main_v2599 : Ref sig .tc := ⟨.hbm, 3816, rfl⟩
abbrev main_cst_787 : Ref sig .tc := ⟨.hbm, 3817, rfl⟩
abbrev main_v2600 : Ref sig .tc := ⟨.hbm, 3818, rfl⟩
abbrev main_v2601 : Ref sig .tc := ⟨.hbm, 3819, rfl⟩
abbrev main_cst_788 : Ref sig .tc := ⟨.hbm, 3820, rfl⟩
abbrev main_v2602 : Ref sig .tc := ⟨.hbm, 3821, rfl⟩
abbrev main_v2603 : Ref sig .tc := ⟨.hbm, 3822, rfl⟩
abbrev main_v2604 : Ref sig .tc := ⟨.hbm, 3823, rfl⟩
abbrev main_v2605 : Ref sig .tc := ⟨.hbm, 3824, rfl⟩
abbrev main_cst_789 : Ref sig .tc := ⟨.hbm, 3825, rfl⟩
abbrev main_v2606 : Ref sig .tc := ⟨.hbm, 3826, rfl⟩
abbrev main_v2607 : Ref sig .tc := ⟨.hbm, 3827, rfl⟩
abbrev main_cst_790 : Ref sig .tc := ⟨.hbm, 3828, rfl⟩
abbrev main_v2608 : Ref sig .tc := ⟨.hbm, 3829, rfl⟩
abbrev main_v2609 : Ref sig .tc := ⟨.hbm, 3830, rfl⟩
abbrev main_cst_791 : Ref sig .tc := ⟨.hbm, 3831, rfl⟩
abbrev main_v2610 : Ref sig .tc := ⟨.hbm, 3832, rfl⟩
abbrev main_v2611 : Ref sig .tc := ⟨.hbm, 3833, rfl⟩
abbrev main_v2612 : Ref sig .tc := ⟨.hbm, 3834, rfl⟩
abbrev main_v2613 : Ref sig .tc := ⟨.hbm, 3835, rfl⟩
abbrev main_v2614 : Ref sig .tc := ⟨.hbm, 3836, rfl⟩
abbrev main_v2615 : Ref sig .tc := ⟨.hbm, 3837, rfl⟩
abbrev main_v2616 : Ref sig .tc := ⟨.hbm, 3838, rfl⟩
abbrev main_c_792 : Ref sig .tc := ⟨.hbm, 3839, rfl⟩
abbrev main_c_793 : Ref sig .tc := ⟨.hbm, 3840, rfl⟩
abbrev main_call80_v0 : Ref sig .tc := ⟨.hbm, 3841, rfl⟩
abbrev main_call80_v1 : Ref sig .tc := ⟨.hbm, 3842, rfl⟩
abbrev main_call80_v2 : Ref sig .tc := ⟨.hbm, 3843, rfl⟩
abbrev main_call80_v3 : Ref sig .tc := ⟨.hbm, 3844, rfl⟩
abbrev main_call80_v4 : Ref sig .tc := ⟨.hbm, 3845, rfl⟩
abbrev main_v2617 : Ref sig .tc := ⟨.hbm, 3846, rfl⟩
abbrev main_c_794 : Ref sig .tc := ⟨.hbm, 3847, rfl⟩
abbrev main_v2618 : Ref sig .tc := ⟨.hbm, 3848, rfl⟩
abbrev main_v2619 : Ref sig .tc := ⟨.hbm, 3849, rfl⟩
abbrev main_c_795 : Ref sig .tc := ⟨.hbm, 3850, rfl⟩
abbrev main_c_796 : Ref sig .tc := ⟨.hbm, 3851, rfl⟩
abbrev main_call81_v0 : Ref sig .tc := ⟨.hbm, 3852, rfl⟩
abbrev main_call81_v1 : Ref sig .tc := ⟨.hbm, 3853, rfl⟩
abbrev main_call81_v2 : Ref sig .tc := ⟨.hbm, 3854, rfl⟩
abbrev main_call81_v3 : Ref sig .tc := ⟨.hbm, 3855, rfl⟩
abbrev main_call81_v4 : Ref sig .tc := ⟨.hbm, 3856, rfl⟩
abbrev main_v2620 : Ref sig .tc := ⟨.hbm, 3857, rfl⟩
abbrev main_v2621 : Ref sig .tc := ⟨.hbm, 3858, rfl⟩
abbrev main_c_797 : Ref sig .tc := ⟨.hbm, 3859, rfl⟩
abbrev main_c_798 : Ref sig .tc := ⟨.hbm, 3860, rfl⟩
abbrev main_call82_v0 : Ref sig .tc := ⟨.hbm, 3861, rfl⟩
abbrev main_call82_v1 : Ref sig .tc := ⟨.hbm, 3862, rfl⟩
abbrev main_call82_v2 : Ref sig .tc := ⟨.hbm, 3863, rfl⟩
abbrev main_call82_v3 : Ref sig .tc := ⟨.hbm, 3864, rfl⟩
abbrev main_call82_v4 : Ref sig .tc := ⟨.hbm, 3865, rfl⟩
abbrev main_v2622 : Ref sig .tc := ⟨.hbm, 3866, rfl⟩
abbrev main_c_799 : Ref sig .tc := ⟨.hbm, 3867, rfl⟩
abbrev main_v2623 : Ref sig .tc := ⟨.hbm, 3868, rfl⟩
abbrev main_v2624 : Ref sig .tc := ⟨.hbm, 3869, rfl⟩
abbrev main_c_800 : Ref sig .tc := ⟨.hbm, 3870, rfl⟩
abbrev main_c_801 : Ref sig .tc := ⟨.hbm, 3871, rfl⟩
abbrev main_call83_v0 : Ref sig .tc := ⟨.hbm, 3872, rfl⟩
abbrev main_call83_v1 : Ref sig .tc := ⟨.hbm, 3873, rfl⟩
abbrev main_call83_v2 : Ref sig .tc := ⟨.hbm, 3874, rfl⟩
abbrev main_call83_v3 : Ref sig .tc := ⟨.hbm, 3875, rfl⟩
abbrev main_call83_v4 : Ref sig .tc := ⟨.hbm, 3876, rfl⟩
abbrev main_v2625 : Ref sig .tc := ⟨.hbm, 3877, rfl⟩
abbrev main_c_802 : Ref sig .tc := ⟨.hbm, 3878, rfl⟩
abbrev main_v2626 : Ref sig .tc := ⟨.hbm, 3879, rfl⟩
abbrev main_v2627 : Ref sig .tc := ⟨.hbm, 3880, rfl⟩
abbrev main_c_803 : Ref sig .tc := ⟨.hbm, 3881, rfl⟩
abbrev main_v2628 : Ref sig .tc := ⟨.hbm, 3882, rfl⟩
abbrev main_v2629 : Ref sig .tc := ⟨.hbm, 3883, rfl⟩
abbrev main_v2630 : Ref sig .tc := ⟨.hbm, 3884, rfl⟩
abbrev main_c_804 : Ref sig .tc := ⟨.hbm, 3885, rfl⟩
abbrev main_v2631 : Ref sig .tc := ⟨.hbm, 3886, rfl⟩
abbrev main_v2632 : Ref sig .tc := ⟨.hbm, 3887, rfl⟩
abbrev main_c_805 : Ref sig .tc := ⟨.hbm, 3888, rfl⟩
abbrev main_v2633 : Ref sig .tc := ⟨.hbm, 3889, rfl⟩
abbrev main_v2634 : Ref sig .tc := ⟨.hbm, 3890, rfl⟩
abbrev main_v2635 : Ref sig .tc := ⟨.hbm, 3891, rfl⟩
abbrev main_v2636 : Ref sig .tc := ⟨.hbm, 3892, rfl⟩
abbrev main_v2637 : Ref sig .tc := ⟨.hbm, 3893, rfl⟩
abbrev main_v2638 : Ref sig .tc := ⟨.hbm, 3894, rfl⟩
abbrev main_v2639 : Ref sig .tc := ⟨.hbm, 3895, rfl⟩
abbrev main_c_806 : Ref sig .tc := ⟨.hbm, 3896, rfl⟩
abbrev main_v2640 : Ref sig .tc := ⟨.hbm, 3897, rfl⟩
abbrev main_v2641 : Ref sig .tc := ⟨.hbm, 3898, rfl⟩
abbrev main_c_807 : Ref sig .tc := ⟨.hbm, 3899, rfl⟩
abbrev main_v2642 : Ref sig .tc := ⟨.hbm, 3900, rfl⟩
abbrev main_v2643 : Ref sig .tc := ⟨.hbm, 3901, rfl⟩
abbrev main_v2644 : Ref sig .tc := ⟨.hbm, 3902, rfl⟩
abbrev main_c_808 : Ref sig .tc := ⟨.hbm, 3903, rfl⟩
abbrev main_v2645 : Ref sig .tc := ⟨.hbm, 3904, rfl⟩
abbrev main_v2646 : Ref sig .tc := ⟨.hbm, 3905, rfl⟩
abbrev main_c_809 : Ref sig .tc := ⟨.hbm, 3906, rfl⟩
abbrev main_v2647 : Ref sig .tc := ⟨.hbm, 3907, rfl⟩
abbrev main_v2648 : Ref sig .tc := ⟨.hbm, 3908, rfl⟩
abbrev main_v2649 : Ref sig .tc := ⟨.hbm, 3909, rfl⟩
abbrev main_v2650 : Ref sig .tc := ⟨.hbm, 3910, rfl⟩
abbrev main_v2651 : Ref sig .tc := ⟨.hbm, 3911, rfl⟩
abbrev main_v2652 : Ref sig .tc := ⟨.hbm, 3912, rfl⟩
abbrev main_v2653 : Ref sig .tc := ⟨.hbm, 3913, rfl⟩
abbrev main_c_810 : Ref sig .tc := ⟨.hbm, 3914, rfl⟩
abbrev main_v2654 : Ref sig .tc := ⟨.hbm, 3915, rfl⟩
abbrev main_v2655 : Ref sig .tc := ⟨.hbm, 3916, rfl⟩
abbrev main_c_811 : Ref sig .tc := ⟨.hbm, 3917, rfl⟩
abbrev main_v2656 : Ref sig .tc := ⟨.hbm, 3918, rfl⟩
abbrev main_v2657 : Ref sig .tc := ⟨.hbm, 3919, rfl⟩
abbrev main_v2658 : Ref sig .tc := ⟨.hbm, 3920, rfl⟩
abbrev main_c_812 : Ref sig .tc := ⟨.hbm, 3921, rfl⟩
abbrev main_v2659 : Ref sig .tc := ⟨.hbm, 3922, rfl⟩
abbrev main_v2660 : Ref sig .tc := ⟨.hbm, 3923, rfl⟩
abbrev main_c_813 : Ref sig .tc := ⟨.hbm, 3924, rfl⟩
abbrev main_v2661 : Ref sig .tc := ⟨.hbm, 3925, rfl⟩
abbrev main_v2662 : Ref sig .tc := ⟨.hbm, 3926, rfl⟩
abbrev main_v2663 : Ref sig .tc := ⟨.hbm, 3927, rfl⟩
abbrev main_v2664 : Ref sig .tc := ⟨.hbm, 3928, rfl⟩
abbrev main_v2665 : Ref sig .tc := ⟨.hbm, 3929, rfl⟩
abbrev main_v2666 : Ref sig .tc := ⟨.hbm, 3930, rfl⟩
abbrev main_v2667 : Ref sig .tc := ⟨.hbm, 3931, rfl⟩
abbrev main_c_814 : Ref sig .tc := ⟨.hbm, 3932, rfl⟩
abbrev main_v2668 : Ref sig .tc := ⟨.hbm, 3933, rfl⟩
abbrev main_v2669 : Ref sig .tc := ⟨.hbm, 3934, rfl⟩
abbrev main_c_815 : Ref sig .tc := ⟨.hbm, 3935, rfl⟩
abbrev main_v2670 : Ref sig .tc := ⟨.hbm, 3936, rfl⟩
abbrev main_v2671 : Ref sig .tc := ⟨.hbm, 3937, rfl⟩
abbrev main_v2672 : Ref sig .tc := ⟨.hbm, 3938, rfl⟩
abbrev main_c_816 : Ref sig .tc := ⟨.hbm, 3939, rfl⟩
abbrev main_v2673 : Ref sig .tc := ⟨.hbm, 3940, rfl⟩
abbrev main_v2674 : Ref sig .tc := ⟨.hbm, 3941, rfl⟩
abbrev main_c_817 : Ref sig .tc := ⟨.hbm, 3942, rfl⟩
abbrev main_v2675 : Ref sig .tc := ⟨.hbm, 3943, rfl⟩
abbrev main_v2676 : Ref sig .tc := ⟨.hbm, 3944, rfl⟩
abbrev main_v2677 : Ref sig .tc := ⟨.hbm, 3945, rfl⟩
abbrev main_v2678 : Ref sig .tc := ⟨.hbm, 3946, rfl⟩
abbrev main_v2679 : Ref sig .tc := ⟨.hbm, 3947, rfl⟩
abbrev main_v2680 : Ref sig .tc := ⟨.hbm, 3948, rfl⟩
abbrev main_v2681 : Ref sig .tc := ⟨.hbm, 3949, rfl⟩
abbrev main_cst_818 : Ref sig .tc := ⟨.hbm, 3950, rfl⟩
abbrev main_v2682 : Ref sig .tc := ⟨.hbm, 3951, rfl⟩
abbrev main_v2683 : Ref sig .tc := ⟨.hbm, 3952, rfl⟩
abbrev main_v2684 : Ref sig .tc := ⟨.hbm, 3953, rfl⟩
abbrev main_v2685 : Ref sig .tc := ⟨.hbm, 3954, rfl⟩
abbrev main_v2686 : Ref sig .tc := ⟨.hbm, 3955, rfl⟩
abbrev main_cst_819 : Ref sig .tc := ⟨.hbm, 3956, rfl⟩
abbrev main_v2687 : Ref sig .tc := ⟨.hbm, 3957, rfl⟩
abbrev main_v2688 : Ref sig .tc := ⟨.hbm, 3958, rfl⟩
abbrev main_v2689 : Ref sig .tc := ⟨.hbm, 3959, rfl⟩
abbrev main_v2690 : Ref sig .tc := ⟨.hbm, 3960, rfl⟩
abbrev main_v2691 : Ref sig .tc := ⟨.hbm, 3961, rfl⟩
abbrev main_v2692 : Ref sig .tc := ⟨.hbm, 3962, rfl⟩
abbrev main_v2693 : Ref sig .tc := ⟨.hbm, 3963, rfl⟩
abbrev main_v2694 : Ref sig .tc := ⟨.hbm, 3964, rfl⟩
abbrev main_cst_820 : Ref sig .tc := ⟨.hbm, 3965, rfl⟩
abbrev main_v2695 : Ref sig .tc := ⟨.hbm, 3966, rfl⟩
abbrev main_v2696 : Ref sig .tc := ⟨.hbm, 3967, rfl⟩
abbrev main_v2697 : Ref sig .tc := ⟨.hbm, 3968, rfl⟩
abbrev main_v2698 : Ref sig .tc := ⟨.hbm, 3969, rfl⟩
abbrev main_v2699 : Ref sig .tc := ⟨.hbm, 3970, rfl⟩
abbrev main_v2700 : Ref sig .tc := ⟨.hbm, 3971, rfl⟩
abbrev main_cst_821 : Ref sig .tc := ⟨.hbm, 3972, rfl⟩
abbrev main_v2701 : Ref sig .tc := ⟨.hbm, 3973, rfl⟩
abbrev main_v2702 : Ref sig .tc := ⟨.hbm, 3974, rfl⟩
abbrev main_v2703 : Ref sig .tc := ⟨.hbm, 3975, rfl⟩
abbrev main_v2704 : Ref sig .tc := ⟨.hbm, 3976, rfl⟩
abbrev main_v2705 : Ref sig .tc := ⟨.hbm, 3977, rfl⟩
abbrev main_v2706 : Ref sig .tc := ⟨.hbm, 3978, rfl⟩
abbrev main_v2707 : Ref sig .tc := ⟨.hbm, 3979, rfl⟩
abbrev main_v2708 : Ref sig .tc := ⟨.hbm, 3980, rfl⟩
abbrev main_v2709 : Ref sig .tc := ⟨.hbm, 3981, rfl⟩
abbrev main_v2710 : Ref sig .tc := ⟨.hbm, 3982, rfl⟩
abbrev main_v2711 : Ref sig .tc := ⟨.hbm, 3983, rfl⟩
abbrev main_v2712 : Ref sig .tc := ⟨.hbm, 3984, rfl⟩
abbrev main_v2713 : Ref sig .tc := ⟨.hbm, 3985, rfl⟩
abbrev main_v2714 : Ref sig .tc := ⟨.hbm, 3986, rfl⟩
abbrev main_v2715 : Ref sig .tc := ⟨.hbm, 3987, rfl⟩
abbrev main_v2716 : Ref sig .tc := ⟨.hbm, 3988, rfl⟩
abbrev main_v2717 : Ref sig .tc := ⟨.hbm, 3989, rfl⟩
abbrev main_c_822 : Ref sig .tc := ⟨.hbm, 3990, rfl⟩
abbrev main_v2718 : Ref sig .tc := ⟨.hbm, 3991, rfl⟩
abbrev main_v2719 : Ref sig .tc := ⟨.hbm, 3992, rfl⟩
abbrev main_c_823 : Ref sig .tc := ⟨.hbm, 3993, rfl⟩
abbrev main_v2720 : Ref sig .tc := ⟨.hbm, 3994, rfl⟩
abbrev main_v2721 : Ref sig .tc := ⟨.hbm, 3995, rfl⟩
abbrev main_v2722 : Ref sig .tc := ⟨.hbm, 3996, rfl⟩
abbrev main_v2723 : Ref sig .tc := ⟨.hbm, 3997, rfl⟩
abbrev main_v2724 : Ref sig .tc := ⟨.hbm, 3998, rfl⟩
abbrev main_v2725 : Ref sig .tc := ⟨.hbm, 3999, rfl⟩
abbrev main_v2726 : Ref sig .tc := ⟨.hbm, 4000, rfl⟩
abbrev main_cst_824 : Ref sig .tc := ⟨.hbm, 4001, rfl⟩
abbrev main_v2727 : Ref sig .tc := ⟨.hbm, 4002, rfl⟩
abbrev main_v2728 : Ref sig .tc := ⟨.hbm, 4003, rfl⟩
abbrev main_cst_825 : Ref sig .tc := ⟨.hbm, 4004, rfl⟩
abbrev main_v2729 : Ref sig .tc := ⟨.hbm, 4005, rfl⟩
abbrev main_v2730 : Ref sig .tc := ⟨.hbm, 4006, rfl⟩
abbrev main_cst_826 : Ref sig .tc := ⟨.hbm, 4007, rfl⟩
abbrev main_v2731 : Ref sig .tc := ⟨.hbm, 4008, rfl⟩
abbrev main_v2732 : Ref sig .tc := ⟨.hbm, 4009, rfl⟩
abbrev main_v2733 : Ref sig .tc := ⟨.hbm, 4010, rfl⟩
abbrev main_v2734 : Ref sig .tc := ⟨.hbm, 4011, rfl⟩
abbrev main_cst_827 : Ref sig .tc := ⟨.hbm, 4012, rfl⟩
abbrev main_v2735 : Ref sig .tc := ⟨.hbm, 4013, rfl⟩
abbrev main_v2736 : Ref sig .tc := ⟨.hbm, 4014, rfl⟩
abbrev main_cst_828 : Ref sig .tc := ⟨.hbm, 4015, rfl⟩
abbrev main_v2737 : Ref sig .tc := ⟨.hbm, 4016, rfl⟩
abbrev main_v2738 : Ref sig .tc := ⟨.hbm, 4017, rfl⟩
abbrev main_cst_829 : Ref sig .tc := ⟨.hbm, 4018, rfl⟩
abbrev main_v2739 : Ref sig .tc := ⟨.hbm, 4019, rfl⟩
abbrev main_v2740 : Ref sig .tc := ⟨.hbm, 4020, rfl⟩
abbrev main_v2741 : Ref sig .tc := ⟨.hbm, 4021, rfl⟩
abbrev main_v2742 : Ref sig .tc := ⟨.hbm, 4022, rfl⟩
abbrev main_v2743 : Ref sig .tc := ⟨.hbm, 4023, rfl⟩
abbrev main_v2744 : Ref sig .tc := ⟨.hbm, 4024, rfl⟩
abbrev main_v2745 : Ref sig .tc := ⟨.hbm, 4025, rfl⟩
abbrev main_c_830 : Ref sig .tc := ⟨.hbm, 4026, rfl⟩
abbrev main_c_831 : Ref sig .tc := ⟨.hbm, 4027, rfl⟩
abbrev main_call84_v0 : Ref sig .tc := ⟨.hbm, 4028, rfl⟩
abbrev main_call84_v1 : Ref sig .tc := ⟨.hbm, 4029, rfl⟩
abbrev main_call84_v2 : Ref sig .tc := ⟨.hbm, 4030, rfl⟩
abbrev main_call84_v3 : Ref sig .tc := ⟨.hbm, 4031, rfl⟩
abbrev main_call84_v4 : Ref sig .tc := ⟨.hbm, 4032, rfl⟩
abbrev main_v2746 : Ref sig .tc := ⟨.hbm, 4033, rfl⟩
abbrev main_c_832 : Ref sig .tc := ⟨.hbm, 4034, rfl⟩
abbrev main_v2747 : Ref sig .tc := ⟨.hbm, 4035, rfl⟩
abbrev main_v2748 : Ref sig .tc := ⟨.hbm, 4036, rfl⟩
abbrev main_c_833 : Ref sig .tc := ⟨.hbm, 4037, rfl⟩
abbrev main_c_834 : Ref sig .tc := ⟨.hbm, 4038, rfl⟩
abbrev main_call85_v0 : Ref sig .tc := ⟨.hbm, 4039, rfl⟩
abbrev main_call85_v1 : Ref sig .tc := ⟨.hbm, 4040, rfl⟩
abbrev main_call85_v2 : Ref sig .tc := ⟨.hbm, 4041, rfl⟩
abbrev main_call85_v3 : Ref sig .tc := ⟨.hbm, 4042, rfl⟩
abbrev main_call85_v4 : Ref sig .tc := ⟨.hbm, 4043, rfl⟩
abbrev main_v2749 : Ref sig .tc := ⟨.hbm, 4044, rfl⟩
abbrev main_v2750 : Ref sig .tc := ⟨.hbm, 4045, rfl⟩
abbrev main_c_835 : Ref sig .tc := ⟨.hbm, 4046, rfl⟩
abbrev main_c_836 : Ref sig .tc := ⟨.hbm, 4047, rfl⟩
abbrev main_call86_v0 : Ref sig .tc := ⟨.hbm, 4048, rfl⟩
abbrev main_call86_v1 : Ref sig .tc := ⟨.hbm, 4049, rfl⟩
abbrev main_call86_v2 : Ref sig .tc := ⟨.hbm, 4050, rfl⟩
abbrev main_call86_v3 : Ref sig .tc := ⟨.hbm, 4051, rfl⟩
abbrev main_call86_v4 : Ref sig .tc := ⟨.hbm, 4052, rfl⟩
abbrev main_v2751 : Ref sig .tc := ⟨.hbm, 4053, rfl⟩
abbrev main_c_837 : Ref sig .tc := ⟨.hbm, 4054, rfl⟩
abbrev main_v2752 : Ref sig .tc := ⟨.hbm, 4055, rfl⟩
abbrev main_v2753 : Ref sig .tc := ⟨.hbm, 4056, rfl⟩
abbrev main_c_838 : Ref sig .tc := ⟨.hbm, 4057, rfl⟩
abbrev main_c_839 : Ref sig .tc := ⟨.hbm, 4058, rfl⟩
abbrev main_call87_v0 : Ref sig .tc := ⟨.hbm, 4059, rfl⟩
abbrev main_call87_v1 : Ref sig .tc := ⟨.hbm, 4060, rfl⟩
abbrev main_call87_v2 : Ref sig .tc := ⟨.hbm, 4061, rfl⟩
abbrev main_call87_v3 : Ref sig .tc := ⟨.hbm, 4062, rfl⟩
abbrev main_call87_v4 : Ref sig .tc := ⟨.hbm, 4063, rfl⟩
abbrev main_v2754 : Ref sig .tc := ⟨.hbm, 4064, rfl⟩
abbrev main_c_840 : Ref sig .tc := ⟨.hbm, 4065, rfl⟩
abbrev main_v2755 : Ref sig .tc := ⟨.hbm, 4066, rfl⟩
abbrev main_v2756 : Ref sig .tc := ⟨.hbm, 4067, rfl⟩
abbrev main_c_841 : Ref sig .tc := ⟨.hbm, 4068, rfl⟩
abbrev main_v2757 : Ref sig .tc := ⟨.hbm, 4069, rfl⟩
abbrev main_v2758 : Ref sig .tc := ⟨.hbm, 4070, rfl⟩
abbrev main_v2759 : Ref sig .tc := ⟨.hbm, 4071, rfl⟩
abbrev main_c_842 : Ref sig .tc := ⟨.hbm, 4072, rfl⟩
abbrev main_v2760 : Ref sig .tc := ⟨.hbm, 4073, rfl⟩
abbrev main_v2761 : Ref sig .tc := ⟨.hbm, 4074, rfl⟩
abbrev main_c_843 : Ref sig .tc := ⟨.hbm, 4075, rfl⟩
abbrev main_v2762 : Ref sig .tc := ⟨.hbm, 4076, rfl⟩
abbrev main_v2763 : Ref sig .tc := ⟨.hbm, 4077, rfl⟩
abbrev main_v2764 : Ref sig .tc := ⟨.hbm, 4078, rfl⟩
abbrev main_v2765 : Ref sig .tc := ⟨.hbm, 4079, rfl⟩
abbrev main_v2766 : Ref sig .tc := ⟨.hbm, 4080, rfl⟩
abbrev main_v2767 : Ref sig .tc := ⟨.hbm, 4081, rfl⟩
abbrev main_v2768 : Ref sig .tc := ⟨.hbm, 4082, rfl⟩
abbrev main_c_844 : Ref sig .tc := ⟨.hbm, 4083, rfl⟩
abbrev main_v2769 : Ref sig .tc := ⟨.hbm, 4084, rfl⟩
abbrev main_v2770 : Ref sig .tc := ⟨.hbm, 4085, rfl⟩
abbrev main_c_845 : Ref sig .tc := ⟨.hbm, 4086, rfl⟩
abbrev main_v2771 : Ref sig .tc := ⟨.hbm, 4087, rfl⟩
abbrev main_v2772 : Ref sig .tc := ⟨.hbm, 4088, rfl⟩
abbrev main_v2773 : Ref sig .tc := ⟨.hbm, 4089, rfl⟩
abbrev main_c_846 : Ref sig .tc := ⟨.hbm, 4090, rfl⟩
abbrev main_v2774 : Ref sig .tc := ⟨.hbm, 4091, rfl⟩
abbrev main_v2775 : Ref sig .tc := ⟨.hbm, 4092, rfl⟩
abbrev main_c_847 : Ref sig .tc := ⟨.hbm, 4093, rfl⟩
abbrev main_v2776 : Ref sig .tc := ⟨.hbm, 4094, rfl⟩
abbrev main_v2777 : Ref sig .tc := ⟨.hbm, 4095, rfl⟩
abbrev main_v2778 : Ref sig .tc := ⟨.hbm, 4096, rfl⟩
abbrev main_v2779 : Ref sig .tc := ⟨.hbm, 4097, rfl⟩
abbrev main_v2780 : Ref sig .tc := ⟨.hbm, 4098, rfl⟩
abbrev main_v2781 : Ref sig .tc := ⟨.hbm, 4099, rfl⟩
abbrev main_v2782 : Ref sig .tc := ⟨.hbm, 4100, rfl⟩
abbrev main_c_848 : Ref sig .tc := ⟨.hbm, 4101, rfl⟩
abbrev main_v2783 : Ref sig .tc := ⟨.hbm, 4102, rfl⟩
abbrev main_v2784 : Ref sig .tc := ⟨.hbm, 4103, rfl⟩
abbrev main_c_849 : Ref sig .tc := ⟨.hbm, 4104, rfl⟩
abbrev main_v2785 : Ref sig .tc := ⟨.hbm, 4105, rfl⟩
abbrev main_v2786 : Ref sig .tc := ⟨.hbm, 4106, rfl⟩
abbrev main_v2787 : Ref sig .tc := ⟨.hbm, 4107, rfl⟩
abbrev main_c_850 : Ref sig .tc := ⟨.hbm, 4108, rfl⟩
abbrev main_v2788 : Ref sig .tc := ⟨.hbm, 4109, rfl⟩
abbrev main_v2789 : Ref sig .tc := ⟨.hbm, 4110, rfl⟩
abbrev main_c_851 : Ref sig .tc := ⟨.hbm, 4111, rfl⟩
abbrev main_v2790 : Ref sig .tc := ⟨.hbm, 4112, rfl⟩
abbrev main_v2791 : Ref sig .tc := ⟨.hbm, 4113, rfl⟩
abbrev main_v2792 : Ref sig .tc := ⟨.hbm, 4114, rfl⟩
abbrev main_v2793 : Ref sig .tc := ⟨.hbm, 4115, rfl⟩
abbrev main_v2794 : Ref sig .tc := ⟨.hbm, 4116, rfl⟩
abbrev main_v2795 : Ref sig .tc := ⟨.hbm, 4117, rfl⟩
abbrev main_v2796 : Ref sig .tc := ⟨.hbm, 4118, rfl⟩
abbrev main_c_852 : Ref sig .tc := ⟨.hbm, 4119, rfl⟩
abbrev main_v2797 : Ref sig .tc := ⟨.hbm, 4120, rfl⟩
abbrev main_v2798 : Ref sig .tc := ⟨.hbm, 4121, rfl⟩
abbrev main_c_853 : Ref sig .tc := ⟨.hbm, 4122, rfl⟩
abbrev main_v2799 : Ref sig .tc := ⟨.hbm, 4123, rfl⟩
abbrev main_v2800 : Ref sig .tc := ⟨.hbm, 4124, rfl⟩
abbrev main_v2801 : Ref sig .tc := ⟨.hbm, 4125, rfl⟩
abbrev main_c_854 : Ref sig .tc := ⟨.hbm, 4126, rfl⟩
abbrev main_v2802 : Ref sig .tc := ⟨.hbm, 4127, rfl⟩
abbrev main_v2803 : Ref sig .tc := ⟨.hbm, 4128, rfl⟩
abbrev main_c_855 : Ref sig .tc := ⟨.hbm, 4129, rfl⟩
abbrev main_v2804 : Ref sig .tc := ⟨.hbm, 4130, rfl⟩
abbrev main_v2805 : Ref sig .tc := ⟨.hbm, 4131, rfl⟩
abbrev main_v2806 : Ref sig .tc := ⟨.hbm, 4132, rfl⟩
abbrev main_v2807 : Ref sig .tc := ⟨.hbm, 4133, rfl⟩
abbrev main_v2808 : Ref sig .tc := ⟨.hbm, 4134, rfl⟩
abbrev main_v2809 : Ref sig .tc := ⟨.hbm, 4135, rfl⟩
abbrev main_v2810 : Ref sig .tc := ⟨.hbm, 4136, rfl⟩
abbrev main_cst_856 : Ref sig .tc := ⟨.hbm, 4137, rfl⟩
abbrev main_v2811 : Ref sig .tc := ⟨.hbm, 4138, rfl⟩
abbrev main_v2812 : Ref sig .tc := ⟨.hbm, 4139, rfl⟩
abbrev main_v2813 : Ref sig .tc := ⟨.hbm, 4140, rfl⟩
abbrev main_v2814 : Ref sig .tc := ⟨.hbm, 4141, rfl⟩
abbrev main_v2815 : Ref sig .tc := ⟨.hbm, 4142, rfl⟩
abbrev main_cst_857 : Ref sig .tc := ⟨.hbm, 4143, rfl⟩
abbrev main_v2816 : Ref sig .tc := ⟨.hbm, 4144, rfl⟩
abbrev main_v2817 : Ref sig .tc := ⟨.hbm, 4145, rfl⟩
abbrev main_v2818 : Ref sig .tc := ⟨.hbm, 4146, rfl⟩
abbrev main_v2819 : Ref sig .tc := ⟨.hbm, 4147, rfl⟩
abbrev main_v2820 : Ref sig .tc := ⟨.hbm, 4148, rfl⟩
abbrev main_v2821 : Ref sig .tc := ⟨.hbm, 4149, rfl⟩
abbrev main_v2822 : Ref sig .tc := ⟨.hbm, 4150, rfl⟩
abbrev main_v2823 : Ref sig .tc := ⟨.hbm, 4151, rfl⟩
abbrev main_cst_858 : Ref sig .tc := ⟨.hbm, 4152, rfl⟩
abbrev main_v2824 : Ref sig .tc := ⟨.hbm, 4153, rfl⟩
abbrev main_v2825 : Ref sig .tc := ⟨.hbm, 4154, rfl⟩
abbrev main_v2826 : Ref sig .tc := ⟨.hbm, 4155, rfl⟩
abbrev main_v2827 : Ref sig .tc := ⟨.hbm, 4156, rfl⟩
abbrev main_v2828 : Ref sig .tc := ⟨.hbm, 4157, rfl⟩
abbrev main_v2829 : Ref sig .tc := ⟨.hbm, 4158, rfl⟩
abbrev main_cst_859 : Ref sig .tc := ⟨.hbm, 4159, rfl⟩
abbrev main_v2830 : Ref sig .tc := ⟨.hbm, 4160, rfl⟩
abbrev main_v2831 : Ref sig .tc := ⟨.hbm, 4161, rfl⟩
abbrev main_v2832 : Ref sig .tc := ⟨.hbm, 4162, rfl⟩
abbrev main_v2833 : Ref sig .tc := ⟨.hbm, 4163, rfl⟩
abbrev main_v2834 : Ref sig .tc := ⟨.hbm, 4164, rfl⟩
abbrev main_v2835 : Ref sig .tc := ⟨.hbm, 4165, rfl⟩
abbrev main_v2836 : Ref sig .tc := ⟨.hbm, 4166, rfl⟩
abbrev main_v2837 : Ref sig .tc := ⟨.hbm, 4167, rfl⟩
abbrev main_v2838 : Ref sig .tc := ⟨.hbm, 4168, rfl⟩
abbrev main_v2839 : Ref sig .tc := ⟨.hbm, 4169, rfl⟩
abbrev main_v2840 : Ref sig .tc := ⟨.hbm, 4170, rfl⟩
abbrev main_v2841 : Ref sig .tc := ⟨.hbm, 4171, rfl⟩
abbrev main_v2842 : Ref sig .tc := ⟨.hbm, 4172, rfl⟩
abbrev main_v2843 : Ref sig .tc := ⟨.hbm, 4173, rfl⟩
abbrev main_v2844 : Ref sig .tc := ⟨.hbm, 4174, rfl⟩
abbrev main_v2845 : Ref sig .tc := ⟨.hbm, 4175, rfl⟩
abbrev main_v2846 : Ref sig .tc := ⟨.hbm, 4176, rfl⟩
abbrev main_c_860 : Ref sig .tc := ⟨.hbm, 4177, rfl⟩
abbrev main_v2847 : Ref sig .tc := ⟨.hbm, 4178, rfl⟩
abbrev main_v2848 : Ref sig .tc := ⟨.hbm, 4179, rfl⟩
abbrev main_c_861 : Ref sig .tc := ⟨.hbm, 4180, rfl⟩
abbrev main_v2849 : Ref sig .tc := ⟨.hbm, 4181, rfl⟩
abbrev main_v2850 : Ref sig .tc := ⟨.hbm, 4182, rfl⟩
abbrev main_v2851 : Ref sig .tc := ⟨.hbm, 4183, rfl⟩
abbrev main_v2852 : Ref sig .tc := ⟨.hbm, 4184, rfl⟩
abbrev main_v2853 : Ref sig .tc := ⟨.hbm, 4185, rfl⟩
abbrev main_v2854 : Ref sig .tc := ⟨.hbm, 4186, rfl⟩
abbrev main_v2855 : Ref sig .tc := ⟨.hbm, 4187, rfl⟩
abbrev main_cst_862 : Ref sig .tc := ⟨.hbm, 4188, rfl⟩
abbrev main_v2856 : Ref sig .tc := ⟨.hbm, 4189, rfl⟩
abbrev main_v2857 : Ref sig .tc := ⟨.hbm, 4190, rfl⟩
abbrev main_cst_863 : Ref sig .tc := ⟨.hbm, 4191, rfl⟩
abbrev main_v2858 : Ref sig .tc := ⟨.hbm, 4192, rfl⟩
abbrev main_v2859 : Ref sig .tc := ⟨.hbm, 4193, rfl⟩
abbrev main_cst_864 : Ref sig .tc := ⟨.hbm, 4194, rfl⟩
abbrev main_v2860 : Ref sig .tc := ⟨.hbm, 4195, rfl⟩
abbrev main_v2861 : Ref sig .tc := ⟨.hbm, 4196, rfl⟩
abbrev main_v2862 : Ref sig .tc := ⟨.hbm, 4197, rfl⟩
abbrev main_v2863 : Ref sig .tc := ⟨.hbm, 4198, rfl⟩
abbrev main_cst_865 : Ref sig .tc := ⟨.hbm, 4199, rfl⟩
abbrev main_v2864 : Ref sig .tc := ⟨.hbm, 4200, rfl⟩
abbrev main_v2865 : Ref sig .tc := ⟨.hbm, 4201, rfl⟩
abbrev main_cst_866 : Ref sig .tc := ⟨.hbm, 4202, rfl⟩
abbrev main_v2866 : Ref sig .tc := ⟨.hbm, 4203, rfl⟩
abbrev main_v2867 : Ref sig .tc := ⟨.hbm, 4204, rfl⟩
abbrev main_cst_867 : Ref sig .tc := ⟨.hbm, 4205, rfl⟩
abbrev main_v2868 : Ref sig .tc := ⟨.hbm, 4206, rfl⟩
abbrev main_v2869 : Ref sig .tc := ⟨.hbm, 4207, rfl⟩
abbrev main_v2870 : Ref sig .tc := ⟨.hbm, 4208, rfl⟩
abbrev main_v2871 : Ref sig .tc := ⟨.hbm, 4209, rfl⟩
abbrev main_v2872 : Ref sig .tc := ⟨.hbm, 4210, rfl⟩
abbrev main_v2873 : Ref sig .tc := ⟨.hbm, 4211, rfl⟩
abbrev main_v2874 : Ref sig .tc := ⟨.hbm, 4212, rfl⟩
abbrev main_c_868 : Ref sig .tc := ⟨.hbm, 4213, rfl⟩
abbrev main_c_869 : Ref sig .tc := ⟨.hbm, 4214, rfl⟩
abbrev main_call88_v0 : Ref sig .tc := ⟨.hbm, 4215, rfl⟩
abbrev main_call88_v1 : Ref sig .tc := ⟨.hbm, 4216, rfl⟩
abbrev main_call88_v2 : Ref sig .tc := ⟨.hbm, 4217, rfl⟩
abbrev main_call88_v3 : Ref sig .tc := ⟨.hbm, 4218, rfl⟩
abbrev main_call88_v4 : Ref sig .tc := ⟨.hbm, 4219, rfl⟩
abbrev main_v2875 : Ref sig .tc := ⟨.hbm, 4220, rfl⟩
abbrev main_c_870 : Ref sig .tc := ⟨.hbm, 4221, rfl⟩
abbrev main_v2876 : Ref sig .tc := ⟨.hbm, 4222, rfl⟩
abbrev main_v2877 : Ref sig .tc := ⟨.hbm, 4223, rfl⟩
abbrev main_c_871 : Ref sig .tc := ⟨.hbm, 4224, rfl⟩
abbrev main_c_872 : Ref sig .tc := ⟨.hbm, 4225, rfl⟩
abbrev main_call89_v0 : Ref sig .tc := ⟨.hbm, 4226, rfl⟩
abbrev main_call89_v1 : Ref sig .tc := ⟨.hbm, 4227, rfl⟩
abbrev main_call89_v2 : Ref sig .tc := ⟨.hbm, 4228, rfl⟩
abbrev main_call89_v3 : Ref sig .tc := ⟨.hbm, 4229, rfl⟩
abbrev main_call89_v4 : Ref sig .tc := ⟨.hbm, 4230, rfl⟩
abbrev main_v2878 : Ref sig .tc := ⟨.hbm, 4231, rfl⟩
abbrev main_v2879 : Ref sig .tc := ⟨.hbm, 4232, rfl⟩
abbrev main_c_873 : Ref sig .tc := ⟨.hbm, 4233, rfl⟩
abbrev main_c_874 : Ref sig .tc := ⟨.hbm, 4234, rfl⟩
abbrev main_call90_v0 : Ref sig .tc := ⟨.hbm, 4235, rfl⟩
abbrev main_call90_v1 : Ref sig .tc := ⟨.hbm, 4236, rfl⟩
abbrev main_call90_v2 : Ref sig .tc := ⟨.hbm, 4237, rfl⟩
abbrev main_call90_v3 : Ref sig .tc := ⟨.hbm, 4238, rfl⟩
abbrev main_call90_v4 : Ref sig .tc := ⟨.hbm, 4239, rfl⟩
abbrev main_v2880 : Ref sig .tc := ⟨.hbm, 4240, rfl⟩
abbrev main_c_875 : Ref sig .tc := ⟨.hbm, 4241, rfl⟩
abbrev main_v2881 : Ref sig .tc := ⟨.hbm, 4242, rfl⟩
abbrev main_v2882 : Ref sig .tc := ⟨.hbm, 4243, rfl⟩
abbrev main_c_876 : Ref sig .tc := ⟨.hbm, 4244, rfl⟩
abbrev main_c_877 : Ref sig .tc := ⟨.hbm, 4245, rfl⟩
abbrev main_call91_v0 : Ref sig .tc := ⟨.hbm, 4246, rfl⟩
abbrev main_call91_v1 : Ref sig .tc := ⟨.hbm, 4247, rfl⟩
abbrev main_call91_v2 : Ref sig .tc := ⟨.hbm, 4248, rfl⟩
abbrev main_call91_v3 : Ref sig .tc := ⟨.hbm, 4249, rfl⟩
abbrev main_call91_v4 : Ref sig .tc := ⟨.hbm, 4250, rfl⟩
abbrev main_v2883 : Ref sig .tc := ⟨.hbm, 4251, rfl⟩
abbrev main_c_878 : Ref sig .tc := ⟨.hbm, 4252, rfl⟩
abbrev main_v2884 : Ref sig .tc := ⟨.hbm, 4253, rfl⟩
abbrev main_v2885 : Ref sig .tc := ⟨.hbm, 4254, rfl⟩
abbrev main_c_879 : Ref sig .tc := ⟨.hbm, 4255, rfl⟩
abbrev main_v2886 : Ref sig .tc := ⟨.hbm, 4256, rfl⟩
abbrev main_v2887 : Ref sig .tc := ⟨.hbm, 4257, rfl⟩
abbrev main_v2888 : Ref sig .tc := ⟨.hbm, 4258, rfl⟩
abbrev main_c_880 : Ref sig .tc := ⟨.hbm, 4259, rfl⟩
abbrev main_v2889 : Ref sig .tc := ⟨.hbm, 4260, rfl⟩
abbrev main_v2890 : Ref sig .tc := ⟨.hbm, 4261, rfl⟩
abbrev main_c_881 : Ref sig .tc := ⟨.hbm, 4262, rfl⟩
abbrev main_v2891 : Ref sig .tc := ⟨.hbm, 4263, rfl⟩
abbrev main_v2892 : Ref sig .tc := ⟨.hbm, 4264, rfl⟩
abbrev main_v2893 : Ref sig .tc := ⟨.hbm, 4265, rfl⟩
abbrev main_v2894 : Ref sig .tc := ⟨.hbm, 4266, rfl⟩
abbrev main_v2895 : Ref sig .tc := ⟨.hbm, 4267, rfl⟩
abbrev main_v2896 : Ref sig .tc := ⟨.hbm, 4268, rfl⟩
abbrev main_v2897 : Ref sig .tc := ⟨.hbm, 4269, rfl⟩
abbrev main_c_882 : Ref sig .tc := ⟨.hbm, 4270, rfl⟩
abbrev main_v2898 : Ref sig .tc := ⟨.hbm, 4271, rfl⟩
abbrev main_v2899 : Ref sig .tc := ⟨.hbm, 4272, rfl⟩
abbrev main_c_883 : Ref sig .tc := ⟨.hbm, 4273, rfl⟩
abbrev main_v2900 : Ref sig .tc := ⟨.hbm, 4274, rfl⟩
abbrev main_v2901 : Ref sig .tc := ⟨.hbm, 4275, rfl⟩
abbrev main_v2902 : Ref sig .tc := ⟨.hbm, 4276, rfl⟩
abbrev main_c_884 : Ref sig .tc := ⟨.hbm, 4277, rfl⟩
abbrev main_v2903 : Ref sig .tc := ⟨.hbm, 4278, rfl⟩
abbrev main_v2904 : Ref sig .tc := ⟨.hbm, 4279, rfl⟩
abbrev main_c_885 : Ref sig .tc := ⟨.hbm, 4280, rfl⟩
abbrev main_v2905 : Ref sig .tc := ⟨.hbm, 4281, rfl⟩
abbrev main_v2906 : Ref sig .tc := ⟨.hbm, 4282, rfl⟩
abbrev main_v2907 : Ref sig .tc := ⟨.hbm, 4283, rfl⟩
abbrev main_v2908 : Ref sig .tc := ⟨.hbm, 4284, rfl⟩
abbrev main_v2909 : Ref sig .tc := ⟨.hbm, 4285, rfl⟩
abbrev main_v2910 : Ref sig .tc := ⟨.hbm, 4286, rfl⟩
abbrev main_v2911 : Ref sig .tc := ⟨.hbm, 4287, rfl⟩
abbrev main_c_886 : Ref sig .tc := ⟨.hbm, 4288, rfl⟩
abbrev main_v2912 : Ref sig .tc := ⟨.hbm, 4289, rfl⟩
abbrev main_v2913 : Ref sig .tc := ⟨.hbm, 4290, rfl⟩
abbrev main_c_887 : Ref sig .tc := ⟨.hbm, 4291, rfl⟩
abbrev main_v2914 : Ref sig .tc := ⟨.hbm, 4292, rfl⟩
abbrev main_v2915 : Ref sig .tc := ⟨.hbm, 4293, rfl⟩
abbrev main_v2916 : Ref sig .tc := ⟨.hbm, 4294, rfl⟩
abbrev main_c_888 : Ref sig .tc := ⟨.hbm, 4295, rfl⟩
abbrev main_v2917 : Ref sig .tc := ⟨.hbm, 4296, rfl⟩
abbrev main_v2918 : Ref sig .tc := ⟨.hbm, 4297, rfl⟩
abbrev main_c_889 : Ref sig .tc := ⟨.hbm, 4298, rfl⟩
abbrev main_v2919 : Ref sig .tc := ⟨.hbm, 4299, rfl⟩
abbrev main_v2920 : Ref sig .tc := ⟨.hbm, 4300, rfl⟩
abbrev main_v2921 : Ref sig .tc := ⟨.hbm, 4301, rfl⟩
abbrev main_v2922 : Ref sig .tc := ⟨.hbm, 4302, rfl⟩
abbrev main_v2923 : Ref sig .tc := ⟨.hbm, 4303, rfl⟩
abbrev main_v2924 : Ref sig .tc := ⟨.hbm, 4304, rfl⟩
abbrev main_v2925 : Ref sig .tc := ⟨.hbm, 4305, rfl⟩
abbrev main_c_890 : Ref sig .tc := ⟨.hbm, 4306, rfl⟩
abbrev main_v2926 : Ref sig .tc := ⟨.hbm, 4307, rfl⟩
abbrev main_v2927 : Ref sig .tc := ⟨.hbm, 4308, rfl⟩
abbrev main_c_891 : Ref sig .tc := ⟨.hbm, 4309, rfl⟩
abbrev main_v2928 : Ref sig .tc := ⟨.hbm, 4310, rfl⟩
abbrev main_v2929 : Ref sig .tc := ⟨.hbm, 4311, rfl⟩
abbrev main_v2930 : Ref sig .tc := ⟨.hbm, 4312, rfl⟩
abbrev main_c_892 : Ref sig .tc := ⟨.hbm, 4313, rfl⟩
abbrev main_v2931 : Ref sig .tc := ⟨.hbm, 4314, rfl⟩
abbrev main_v2932 : Ref sig .tc := ⟨.hbm, 4315, rfl⟩
abbrev main_c_893 : Ref sig .tc := ⟨.hbm, 4316, rfl⟩
abbrev main_v2933 : Ref sig .tc := ⟨.hbm, 4317, rfl⟩
abbrev main_v2934 : Ref sig .tc := ⟨.hbm, 4318, rfl⟩
abbrev main_v2935 : Ref sig .tc := ⟨.hbm, 4319, rfl⟩
abbrev main_v2936 : Ref sig .tc := ⟨.hbm, 4320, rfl⟩
abbrev main_v2937 : Ref sig .tc := ⟨.hbm, 4321, rfl⟩
abbrev main_v2938 : Ref sig .tc := ⟨.hbm, 4322, rfl⟩
abbrev main_v2939 : Ref sig .tc := ⟨.hbm, 4323, rfl⟩
abbrev main_cst_894 : Ref sig .tc := ⟨.hbm, 4324, rfl⟩
abbrev main_v2940 : Ref sig .tc := ⟨.hbm, 4325, rfl⟩
abbrev main_v2941 : Ref sig .tc := ⟨.hbm, 4326, rfl⟩
abbrev main_v2942 : Ref sig .tc := ⟨.hbm, 4327, rfl⟩
abbrev main_v2943 : Ref sig .tc := ⟨.hbm, 4328, rfl⟩
abbrev main_v2944 : Ref sig .tc := ⟨.hbm, 4329, rfl⟩
abbrev main_cst_895 : Ref sig .tc := ⟨.hbm, 4330, rfl⟩
abbrev main_v2945 : Ref sig .tc := ⟨.hbm, 4331, rfl⟩
abbrev main_v2946 : Ref sig .tc := ⟨.hbm, 4332, rfl⟩
abbrev main_v2947 : Ref sig .tc := ⟨.hbm, 4333, rfl⟩
abbrev main_v2948 : Ref sig .tc := ⟨.hbm, 4334, rfl⟩
abbrev main_v2949 : Ref sig .tc := ⟨.hbm, 4335, rfl⟩
abbrev main_v2950 : Ref sig .tc := ⟨.hbm, 4336, rfl⟩
abbrev main_v2951 : Ref sig .tc := ⟨.hbm, 4337, rfl⟩
abbrev main_v2952 : Ref sig .tc := ⟨.hbm, 4338, rfl⟩
abbrev main_cst_896 : Ref sig .tc := ⟨.hbm, 4339, rfl⟩
abbrev main_v2953 : Ref sig .tc := ⟨.hbm, 4340, rfl⟩
abbrev main_v2954 : Ref sig .tc := ⟨.hbm, 4341, rfl⟩
abbrev main_v2955 : Ref sig .tc := ⟨.hbm, 4342, rfl⟩
abbrev main_v2956 : Ref sig .tc := ⟨.hbm, 4343, rfl⟩
abbrev main_v2957 : Ref sig .tc := ⟨.hbm, 4344, rfl⟩
abbrev main_v2958 : Ref sig .tc := ⟨.hbm, 4345, rfl⟩
abbrev main_cst_897 : Ref sig .tc := ⟨.hbm, 4346, rfl⟩
abbrev main_v2959 : Ref sig .tc := ⟨.hbm, 4347, rfl⟩
abbrev main_v2960 : Ref sig .tc := ⟨.hbm, 4348, rfl⟩
abbrev main_v2961 : Ref sig .tc := ⟨.hbm, 4349, rfl⟩
abbrev main_v2962 : Ref sig .tc := ⟨.hbm, 4350, rfl⟩
abbrev main_v2963 : Ref sig .tc := ⟨.hbm, 4351, rfl⟩
abbrev main_v2964 : Ref sig .tc := ⟨.hbm, 4352, rfl⟩
abbrev main_v2965 : Ref sig .tc := ⟨.hbm, 4353, rfl⟩
abbrev main_v2966 : Ref sig .tc := ⟨.hbm, 4354, rfl⟩
abbrev main_v2967 : Ref sig .tc := ⟨.hbm, 4355, rfl⟩
abbrev main_v2968 : Ref sig .tc := ⟨.hbm, 4356, rfl⟩
abbrev main_v2969 : Ref sig .tc := ⟨.hbm, 4357, rfl⟩
abbrev main_v2970 : Ref sig .tc := ⟨.hbm, 4358, rfl⟩
abbrev main_v2971 : Ref sig .tc := ⟨.hbm, 4359, rfl⟩
abbrev main_v2972 : Ref sig .tc := ⟨.hbm, 4360, rfl⟩
abbrev main_v2973 : Ref sig .tc := ⟨.hbm, 4361, rfl⟩
abbrev main_v2974 : Ref sig .tc := ⟨.hbm, 4362, rfl⟩
abbrev main_v2975 : Ref sig .tc := ⟨.hbm, 4363, rfl⟩
abbrev main_c_898 : Ref sig .tc := ⟨.hbm, 4364, rfl⟩
abbrev main_v2976 : Ref sig .tc := ⟨.hbm, 4365, rfl⟩
abbrev main_v2977 : Ref sig .tc := ⟨.hbm, 4366, rfl⟩
abbrev main_c_899 : Ref sig .tc := ⟨.hbm, 4367, rfl⟩
abbrev main_v2978 : Ref sig .tc := ⟨.hbm, 4368, rfl⟩
abbrev main_v2979 : Ref sig .tc := ⟨.hbm, 4369, rfl⟩
abbrev main_v2980 : Ref sig .tc := ⟨.hbm, 4370, rfl⟩
abbrev main_v2981 : Ref sig .tc := ⟨.hbm, 4371, rfl⟩
abbrev main_v2982 : Ref sig .tc := ⟨.hbm, 4372, rfl⟩
abbrev main_v2983 : Ref sig .tc := ⟨.hbm, 4373, rfl⟩
abbrev main_v2984 : Ref sig .tc := ⟨.hbm, 4374, rfl⟩
abbrev main_cst_900 : Ref sig .tc := ⟨.hbm, 4375, rfl⟩
abbrev main_v2985 : Ref sig .tc := ⟨.hbm, 4376, rfl⟩
abbrev main_v2986 : Ref sig .tc := ⟨.hbm, 4377, rfl⟩
abbrev main_cst_901 : Ref sig .tc := ⟨.hbm, 4378, rfl⟩
abbrev main_v2987 : Ref sig .tc := ⟨.hbm, 4379, rfl⟩
abbrev main_v2988 : Ref sig .tc := ⟨.hbm, 4380, rfl⟩
abbrev main_cst_902 : Ref sig .tc := ⟨.hbm, 4381, rfl⟩
abbrev main_v2989 : Ref sig .tc := ⟨.hbm, 4382, rfl⟩
abbrev main_v2990 : Ref sig .tc := ⟨.hbm, 4383, rfl⟩
abbrev main_v2991 : Ref sig .tc := ⟨.hbm, 4384, rfl⟩
abbrev main_v2992 : Ref sig .tc := ⟨.hbm, 4385, rfl⟩
abbrev main_cst_903 : Ref sig .tc := ⟨.hbm, 4386, rfl⟩
abbrev main_v2993 : Ref sig .tc := ⟨.hbm, 4387, rfl⟩
abbrev main_v2994 : Ref sig .tc := ⟨.hbm, 4388, rfl⟩
abbrev main_cst_904 : Ref sig .tc := ⟨.hbm, 4389, rfl⟩
abbrev main_v2995 : Ref sig .tc := ⟨.hbm, 4390, rfl⟩
abbrev main_v2996 : Ref sig .tc := ⟨.hbm, 4391, rfl⟩
abbrev main_cst_905 : Ref sig .tc := ⟨.hbm, 4392, rfl⟩
abbrev main_v2997 : Ref sig .tc := ⟨.hbm, 4393, rfl⟩
abbrev main_v2998 : Ref sig .tc := ⟨.hbm, 4394, rfl⟩
abbrev main_v2999 : Ref sig .tc := ⟨.hbm, 4395, rfl⟩
abbrev main_v3000 : Ref sig .tc := ⟨.hbm, 4396, rfl⟩
abbrev main_v3001 : Ref sig .tc := ⟨.hbm, 4397, rfl⟩
abbrev main_v3002 : Ref sig .tc := ⟨.hbm, 4398, rfl⟩
abbrev main_v3003 : Ref sig .tc := ⟨.hbm, 4399, rfl⟩
abbrev main_c_906 : Ref sig .tc := ⟨.hbm, 4400, rfl⟩
abbrev main_c_907 : Ref sig .tc := ⟨.hbm, 4401, rfl⟩
abbrev main_call92_v0 : Ref sig .tc := ⟨.hbm, 4402, rfl⟩
abbrev main_call92_v1 : Ref sig .tc := ⟨.hbm, 4403, rfl⟩
abbrev main_call92_v2 : Ref sig .tc := ⟨.hbm, 4404, rfl⟩
abbrev main_call92_v3 : Ref sig .tc := ⟨.hbm, 4405, rfl⟩
abbrev main_call92_v4 : Ref sig .tc := ⟨.hbm, 4406, rfl⟩
abbrev main_v3004 : Ref sig .tc := ⟨.hbm, 4407, rfl⟩
abbrev main_c_908 : Ref sig .tc := ⟨.hbm, 4408, rfl⟩
abbrev main_v3005 : Ref sig .tc := ⟨.hbm, 4409, rfl⟩
abbrev main_v3006 : Ref sig .tc := ⟨.hbm, 4410, rfl⟩
abbrev main_c_909 : Ref sig .tc := ⟨.hbm, 4411, rfl⟩
abbrev main_c_910 : Ref sig .tc := ⟨.hbm, 4412, rfl⟩
abbrev main_call93_v0 : Ref sig .tc := ⟨.hbm, 4413, rfl⟩
abbrev main_call93_v1 : Ref sig .tc := ⟨.hbm, 4414, rfl⟩
abbrev main_call93_v2 : Ref sig .tc := ⟨.hbm, 4415, rfl⟩
abbrev main_call93_v3 : Ref sig .tc := ⟨.hbm, 4416, rfl⟩
abbrev main_call93_v4 : Ref sig .tc := ⟨.hbm, 4417, rfl⟩
abbrev main_v3007 : Ref sig .tc := ⟨.hbm, 4418, rfl⟩
abbrev main_v3008 : Ref sig .tc := ⟨.hbm, 4419, rfl⟩
abbrev main_c_911 : Ref sig .tc := ⟨.hbm, 4420, rfl⟩
abbrev main_c_912 : Ref sig .tc := ⟨.hbm, 4421, rfl⟩
abbrev main_call94_v0 : Ref sig .tc := ⟨.hbm, 4422, rfl⟩
abbrev main_call94_v1 : Ref sig .tc := ⟨.hbm, 4423, rfl⟩
abbrev main_call94_v2 : Ref sig .tc := ⟨.hbm, 4424, rfl⟩
abbrev main_call94_v3 : Ref sig .tc := ⟨.hbm, 4425, rfl⟩
abbrev main_call94_v4 : Ref sig .tc := ⟨.hbm, 4426, rfl⟩
abbrev main_v3009 : Ref sig .tc := ⟨.hbm, 4427, rfl⟩
abbrev main_c_913 : Ref sig .tc := ⟨.hbm, 4428, rfl⟩
abbrev main_v3010 : Ref sig .tc := ⟨.hbm, 4429, rfl⟩
abbrev main_v3011 : Ref sig .tc := ⟨.hbm, 4430, rfl⟩
abbrev main_c_914 : Ref sig .tc := ⟨.hbm, 4431, rfl⟩
abbrev main_c_915 : Ref sig .tc := ⟨.hbm, 4432, rfl⟩
abbrev main_call95_v0 : Ref sig .tc := ⟨.hbm, 4433, rfl⟩
abbrev main_call95_v1 : Ref sig .tc := ⟨.hbm, 4434, rfl⟩
abbrev main_call95_v2 : Ref sig .tc := ⟨.hbm, 4435, rfl⟩
abbrev main_call95_v3 : Ref sig .tc := ⟨.hbm, 4436, rfl⟩
abbrev main_call95_v4 : Ref sig .tc := ⟨.hbm, 4437, rfl⟩
abbrev main_v3012 : Ref sig .tc := ⟨.hbm, 4438, rfl⟩
abbrev main_c_916 : Ref sig .tc := ⟨.hbm, 4439, rfl⟩
abbrev main_v3013 : Ref sig .tc := ⟨.hbm, 4440, rfl⟩
abbrev main_v3014 : Ref sig .tc := ⟨.hbm, 4441, rfl⟩
abbrev main_c_917 : Ref sig .tc := ⟨.hbm, 4442, rfl⟩
abbrev main_v3015 : Ref sig .tc := ⟨.hbm, 4443, rfl⟩
abbrev main_v3016 : Ref sig .tc := ⟨.hbm, 4444, rfl⟩
abbrev main_v3017 : Ref sig .tc := ⟨.hbm, 4445, rfl⟩
abbrev main_c_918 : Ref sig .tc := ⟨.hbm, 4446, rfl⟩
abbrev main_v3018 : Ref sig .tc := ⟨.hbm, 4447, rfl⟩
abbrev main_v3019 : Ref sig .tc := ⟨.hbm, 4448, rfl⟩
abbrev main_c_919 : Ref sig .tc := ⟨.hbm, 4449, rfl⟩
abbrev main_v3020 : Ref sig .tc := ⟨.hbm, 4450, rfl⟩
abbrev main_v3021 : Ref sig .tc := ⟨.hbm, 4451, rfl⟩
abbrev main_v3022 : Ref sig .tc := ⟨.hbm, 4452, rfl⟩
abbrev main_v3023 : Ref sig .tc := ⟨.hbm, 4453, rfl⟩
abbrev main_v3024 : Ref sig .tc := ⟨.hbm, 4454, rfl⟩
abbrev main_v3025 : Ref sig .tc := ⟨.hbm, 4455, rfl⟩
abbrev main_v3026 : Ref sig .tc := ⟨.hbm, 4456, rfl⟩
abbrev main_c_920 : Ref sig .tc := ⟨.hbm, 4457, rfl⟩
abbrev main_v3027 : Ref sig .tc := ⟨.hbm, 4458, rfl⟩
abbrev main_v3028 : Ref sig .tc := ⟨.hbm, 4459, rfl⟩
abbrev main_c_921 : Ref sig .tc := ⟨.hbm, 4460, rfl⟩
abbrev main_v3029 : Ref sig .tc := ⟨.hbm, 4461, rfl⟩
abbrev main_v3030 : Ref sig .tc := ⟨.hbm, 4462, rfl⟩
abbrev main_v3031 : Ref sig .tc := ⟨.hbm, 4463, rfl⟩
abbrev main_c_922 : Ref sig .tc := ⟨.hbm, 4464, rfl⟩
abbrev main_v3032 : Ref sig .tc := ⟨.hbm, 4465, rfl⟩
abbrev main_v3033 : Ref sig .tc := ⟨.hbm, 4466, rfl⟩
abbrev main_c_923 : Ref sig .tc := ⟨.hbm, 4467, rfl⟩
abbrev main_v3034 : Ref sig .tc := ⟨.hbm, 4468, rfl⟩
abbrev main_v3035 : Ref sig .tc := ⟨.hbm, 4469, rfl⟩
abbrev main_v3036 : Ref sig .tc := ⟨.hbm, 4470, rfl⟩
abbrev main_v3037 : Ref sig .tc := ⟨.hbm, 4471, rfl⟩
abbrev main_v3038 : Ref sig .tc := ⟨.hbm, 4472, rfl⟩
abbrev main_v3039 : Ref sig .tc := ⟨.hbm, 4473, rfl⟩
abbrev main_v3040 : Ref sig .tc := ⟨.hbm, 4474, rfl⟩
abbrev main_c_924 : Ref sig .tc := ⟨.hbm, 4475, rfl⟩
abbrev main_v3041 : Ref sig .tc := ⟨.hbm, 4476, rfl⟩
abbrev main_v3042 : Ref sig .tc := ⟨.hbm, 4477, rfl⟩
abbrev main_c_925 : Ref sig .tc := ⟨.hbm, 4478, rfl⟩
abbrev main_v3043 : Ref sig .tc := ⟨.hbm, 4479, rfl⟩
abbrev main_v3044 : Ref sig .tc := ⟨.hbm, 4480, rfl⟩
abbrev main_v3045 : Ref sig .tc := ⟨.hbm, 4481, rfl⟩
abbrev main_c_926 : Ref sig .tc := ⟨.hbm, 4482, rfl⟩
abbrev main_v3046 : Ref sig .tc := ⟨.hbm, 4483, rfl⟩
abbrev main_v3047 : Ref sig .tc := ⟨.hbm, 4484, rfl⟩
abbrev main_c_927 : Ref sig .tc := ⟨.hbm, 4485, rfl⟩
abbrev main_v3048 : Ref sig .tc := ⟨.hbm, 4486, rfl⟩
abbrev main_v3049 : Ref sig .tc := ⟨.hbm, 4487, rfl⟩
abbrev main_v3050 : Ref sig .tc := ⟨.hbm, 4488, rfl⟩
abbrev main_v3051 : Ref sig .tc := ⟨.hbm, 4489, rfl⟩
abbrev main_v3052 : Ref sig .tc := ⟨.hbm, 4490, rfl⟩
abbrev main_v3053 : Ref sig .tc := ⟨.hbm, 4491, rfl⟩
abbrev main_v3054 : Ref sig .tc := ⟨.hbm, 4492, rfl⟩
abbrev main_c_928 : Ref sig .tc := ⟨.hbm, 4493, rfl⟩
abbrev main_v3055 : Ref sig .tc := ⟨.hbm, 4494, rfl⟩
abbrev main_v3056 : Ref sig .tc := ⟨.hbm, 4495, rfl⟩
abbrev main_c_929 : Ref sig .tc := ⟨.hbm, 4496, rfl⟩
abbrev main_v3057 : Ref sig .tc := ⟨.hbm, 4497, rfl⟩
abbrev main_v3058 : Ref sig .tc := ⟨.hbm, 4498, rfl⟩
abbrev main_v3059 : Ref sig .tc := ⟨.hbm, 4499, rfl⟩
abbrev main_c_930 : Ref sig .tc := ⟨.hbm, 4500, rfl⟩
abbrev main_v3060 : Ref sig .tc := ⟨.hbm, 4501, rfl⟩
abbrev main_v3061 : Ref sig .tc := ⟨.hbm, 4502, rfl⟩
abbrev main_c_931 : Ref sig .tc := ⟨.hbm, 4503, rfl⟩
abbrev main_v3062 : Ref sig .tc := ⟨.hbm, 4504, rfl⟩
abbrev main_v3063 : Ref sig .tc := ⟨.hbm, 4505, rfl⟩
abbrev main_v3064 : Ref sig .tc := ⟨.hbm, 4506, rfl⟩
abbrev main_v3065 : Ref sig .tc := ⟨.hbm, 4507, rfl⟩
abbrev main_v3066 : Ref sig .tc := ⟨.hbm, 4508, rfl⟩
abbrev main_v3067 : Ref sig .tc := ⟨.hbm, 4509, rfl⟩
abbrev main_v3068 : Ref sig .tc := ⟨.hbm, 4510, rfl⟩
abbrev main_cst_932 : Ref sig .tc := ⟨.hbm, 4511, rfl⟩
abbrev main_v3069 : Ref sig .tc := ⟨.hbm, 4512, rfl⟩
abbrev main_v3070 : Ref sig .tc := ⟨.hbm, 4513, rfl⟩
abbrev main_v3071 : Ref sig .tc := ⟨.hbm, 4514, rfl⟩
abbrev main_v3072 : Ref sig .tc := ⟨.hbm, 4515, rfl⟩
abbrev main_v3073 : Ref sig .tc := ⟨.hbm, 4516, rfl⟩
abbrev main_cst_933 : Ref sig .tc := ⟨.hbm, 4517, rfl⟩
abbrev main_v3074 : Ref sig .tc := ⟨.hbm, 4518, rfl⟩
abbrev main_v3075 : Ref sig .tc := ⟨.hbm, 4519, rfl⟩
abbrev main_v3076 : Ref sig .tc := ⟨.hbm, 4520, rfl⟩
abbrev main_v3077 : Ref sig .tc := ⟨.hbm, 4521, rfl⟩
abbrev main_v3078 : Ref sig .tc := ⟨.hbm, 4522, rfl⟩
abbrev main_v3079 : Ref sig .tc := ⟨.hbm, 4523, rfl⟩
abbrev main_v3080 : Ref sig .tc := ⟨.hbm, 4524, rfl⟩
abbrev main_v3081 : Ref sig .tc := ⟨.hbm, 4525, rfl⟩
abbrev main_cst_934 : Ref sig .tc := ⟨.hbm, 4526, rfl⟩
abbrev main_v3082 : Ref sig .tc := ⟨.hbm, 4527, rfl⟩
abbrev main_v3083 : Ref sig .tc := ⟨.hbm, 4528, rfl⟩
abbrev main_v3084 : Ref sig .tc := ⟨.hbm, 4529, rfl⟩
abbrev main_v3085 : Ref sig .tc := ⟨.hbm, 4530, rfl⟩
abbrev main_v3086 : Ref sig .tc := ⟨.hbm, 4531, rfl⟩
abbrev main_v3087 : Ref sig .tc := ⟨.hbm, 4532, rfl⟩
abbrev main_cst_935 : Ref sig .tc := ⟨.hbm, 4533, rfl⟩
abbrev main_v3088 : Ref sig .tc := ⟨.hbm, 4534, rfl⟩
abbrev main_v3089 : Ref sig .tc := ⟨.hbm, 4535, rfl⟩
abbrev main_v3090 : Ref sig .tc := ⟨.hbm, 4536, rfl⟩
abbrev main_v3091 : Ref sig .tc := ⟨.hbm, 4537, rfl⟩
abbrev main_v3092 : Ref sig .tc := ⟨.hbm, 4538, rfl⟩
abbrev main_v3093 : Ref sig .tc := ⟨.hbm, 4539, rfl⟩
abbrev main_v3094 : Ref sig .tc := ⟨.hbm, 4540, rfl⟩
abbrev main_v3095 : Ref sig .tc := ⟨.hbm, 4541, rfl⟩
abbrev main_v3096 : Ref sig .tc := ⟨.hbm, 4542, rfl⟩
abbrev main_v3097 : Ref sig .tc := ⟨.hbm, 4543, rfl⟩
abbrev main_v3098 : Ref sig .tc := ⟨.hbm, 4544, rfl⟩
abbrev main_v3099 : Ref sig .tc := ⟨.hbm, 4545, rfl⟩
abbrev main_v3100 : Ref sig .tc := ⟨.hbm, 4546, rfl⟩
abbrev main_v3101 : Ref sig .tc := ⟨.hbm, 4547, rfl⟩
abbrev main_v3102 : Ref sig .tc := ⟨.hbm, 4548, rfl⟩
abbrev main_v3103 : Ref sig .tc := ⟨.hbm, 4549, rfl⟩
abbrev main_v3104 : Ref sig .tc := ⟨.hbm, 4550, rfl⟩
abbrev main_v3105 : Ref sig .tc := ⟨.hbm, 4551, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg25_0 : Ref sig .tc := ⟨.vmem, 49, rfl⟩
abbrev cc0_stg26_0 : Ref sig .tc := ⟨.vmem, 50, rfl⟩
abbrev cc0_stg26_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem25_0 : DmaSem sig := 49
abbrev cc0_sem26_0 : DmaSem sig := 50
abbrev cc0_sem26_1 : DmaSem sig := 51

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x32 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S128x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1024x16 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S_S4096x32x3 : S_.BroadcastsInDim S4096x32x3 (![] : Fin 0 → Fin S4096x32x3.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x3_S4096x32x1_S4096x32x4_d2 : Shape.Concatenates [S4096x32x3, S4096x32x1] S4096x32x4 2
  shapeCasts_S4096x32x4_S131072x4 : S4096x32x4.ShapeCasts S131072x4
  bcast_S_S2 : S_.BroadcastsInDim S2 (![] : Fin 0 → Fin S2.rank)
  bcast_S2_S2x1_0 : S2.BroadcastsInDim S2x1 (![0] : Fin 1 → Fin S2x1.rank)
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  slices_S131072x2_S131072x1_0_1 : S131072x2.Slices ![0, 1] S131072x1
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S131072_S1x131072_1 : S131072.BroadcastsInDim S1x131072 (![1] : Fin 1 → Fin S1x131072.rank)
  bcast_S1x131072_S32x131072_0_1 : S1x131072.BroadcastsInDim S32x131072 (![0, 1] : Fin 2 → Fin S32x131072.rank)
  transposes_S32x131072_S131072x32_1_0 : S32x131072.Transposes [1, 0] S131072x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S128x64_S32x64_0_0 : ∀ a, (![0, 0] : Fin 2 → Nat) a + S32x64.size a ≤ S128x64.size a
  h_S32x64 : 0 < S32x64.numel
  bitsLt_bf16_f32 : FTy.bits .bf16 < FTy.bits .f32
  inb_S128x64_S32x64_32_0 : ∀ a, (![32, 0] : Fin 2 → Nat) a + S32x64.size a ≤ S128x64.size a
  inb_S128x64_S32x64_64_0 : ∀ a, (![64, 0] : Fin 2 → Nat) a + S32x64.size a ≤ S128x64.size a
  inb_S128x64_S32x64_96_0 : ∀ a, (![96, 0] : Fin 2 → Nat) a + S32x64.size a ≤ S128x64.size a
  inb_S64x16_S64x16_0_0 : ∀ a, (![0, 0] : Fin 2 → Nat) a + S64x16.size a ≤ S64x16.size a
  h_S64x16 : 0 < S64x16.numel
  slices_S1024x16_o0_0_S1024x15 : S1024x16.Slices ![0, 0] S1024x15
  slices_S1024x16_o0_15_S1024x1 : S1024x16.Slices ![0, 15] S1024x1
  concatenates_S1024x1_S1024x15_S1024x16_d1 : Shape.Concatenates [S1024x1, S1024x15] S1024x16 1
  inb_S1024x16_S1024x16_0_0 : ∀ a, (![0, 0] : Fin 2 → Nat) a + S1024x16.size a ≤ S1024x16.size a
  h_S1024x16 : 0 < S1024x16.numel
  gather_S131072x4_S2x1_S131072x2_0_1_n_n_1_1_1310721_wf : GatherDims.WF S131072x4 S2x1 S131072x2 [0] [1] [] [1] [] 1 ![131072, 1]
  gather_S32x64x64_S131072x2_S32x131072_0_12_n_n_12_1_3211_wf : GatherDims.WF S32x64x64 S131072x2 S32x131072 [0] [1, 2] [] [1, 2] [] 1 ![32, 1, 1]
  gather_S32x150x64_S131072x2_S32x131072_0_12_n_n_12_1_3211_wf : GatherDims.WF S32x150x64 S131072x2 S32x131072 [0] [1, 2] [] [1, 2] [] 1 ![32, 1, 1]
  gather_S32x128x128_S131072x2_S32x131072_0_12_n_n_12_1_3211_wf : GatherDims.WF S32x128x128 S131072x2 S32x131072 [0] [1, 2] [] [1, 2] [] 1 ![32, 1, 1]
  gather_S32x150x128_S131072x2_S32x131072_0_12_n_n_12_1_3211_wf : GatherDims.WF S32x150x128 S131072x2 S32x131072 [0] [1, 2] [] [1, 2] [] 1 ![32, 1, 1]
  gather_S32x256x256_S131072x2_S32x131072_0_12_n_n_12_1_3211_wf : GatherDims.WF S32x256x256 S131072x2 S32x131072 [0] [1, 2] [] [1, 2] [] 1 ![32, 1, 1]
  gather_S32x150x256_S131072x2_S32x131072_0_12_n_n_12_1_3211_wf : GatherDims.WF S32x150x256 S131072x2 S32x131072 [0] [1, 2] [] [1, 2] [] 1 ![32, 1, 1]
  gather_S32x512x512_S131072x2_S32x131072_0_12_n_n_12_1_3211_wf : GatherDims.WF S32x512x512 S131072x2 S32x131072 [0] [1, 2] [] [1, 2] [] 1 ![32, 1, 1]
  gather_S32x150x512_S131072x2_S32x131072_0_12_n_n_12_1_3211_wf : GatherDims.WF S32x150x512 S131072x2 S32x131072 [0] [1, 2] [] [1, 2] [] 1 ![32, 1, 1]
  dot_S1024x32_S32x64_S1024x64_1_0_0_1_n_n_wf : DotDims.WF S1024x32 S32x64 S1024x64 [1] [0] [0] [1] [] []
  dot_S1024x64_S64x16_S1024x16_1_0_0_1_n_n_wf : DotDims.WF S1024x64 S64x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S131072x32.size a
  hwx0_0 : ∀ i : grid0.Coords, EltTy.bits .f32 = 32 ∨ (Rect.block (s := S131072x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S131072x32.size a
  hwx0_1 : ∀ i : grid0.Coords, EltTy.bits .f32 = 32 ∨ (Rect.block (s := S131072x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S131072x32.size a
  hwx0_2 : ∀ i : grid0.Coords, EltTy.bits .f32 = 32 ∨ (Rect.block (s := S131072x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S131072x32.size a
  hwx0_3 : ∀ i : grid0.Coords, EltTy.bits .f32 = 32 ∨ (Rect.block (s := S131072x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S131072x32.size a
  hwx0_4 : ∀ i : grid0.Coords, EltTy.bits .f32 = 32 ∨ (Rect.block (s := S131072x32) S1024x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S131072x32.size a
  hwx0_5 : ∀ i : grid0.Coords, EltTy.bits .f32 = 32 ∨ (Rect.block (s := S131072x32) S1024x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S131072x32.size a
  hwx0_6 : ∀ i : grid0.Coords, EltTy.bits .f32 = 32 ∨ (Rect.block (s := S131072x32) S1024x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S131072x32.size a
  hwx0_7 : ∀ i : grid0.Coords, EltTy.bits .f32 = 32 ∨ (Rect.block (s := S131072x32) S1024x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x32.size a ≤ S131072x32.size a
  hwx0_8 : ∀ i : grid0.Coords, EltTy.bits .f32 = 32 ∨ (Rect.block (s := S131072x32) S1024x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x32.size a ≤ S131072x32.size a
  hwx0_9 : ∀ i : grid0.Coords, EltTy.bits .f32 = 32 ∨ (Rect.block (s := S131072x32) S1024x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x32.size a ≤ S131072x32.size a
  hwx0_10 : ∀ i : grid0.Coords, EltTy.bits .f32 = 32 ∨ (Rect.block (s := S131072x32) S1024x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x32.size a ≤ S131072x32.size a
  hwx0_11 : ∀ i : grid0.Coords, EltTy.bits .f32 = 32 ∨ (Rect.block (s := S131072x32) S1024x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x32.size a ≤ S131072x32.size a
  hwx0_12 : ∀ i : grid0.Coords, EltTy.bits .f32 = 32 ∨ (Rect.block (s := S131072x32) S1024x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x32.size a ≤ S131072x32.size a
  hwx0_13 : ∀ i : grid0.Coords, EltTy.bits .f32 = 32 ∨ (Rect.block (s := S131072x32) S1024x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x32.size a ≤ S131072x32.size a
  hwx0_14 : ∀ i : grid0.Coords, EltTy.bits .f32 = 32 ∨ (Rect.block (s := S131072x32) S1024x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x32.size a ≤ S131072x32.size a
  hwx0_15 : ∀ i : grid0.Coords, EltTy.bits .f32 = 32 ∨ (Rect.block (s := S131072x32) S1024x32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x32.size a ≤ S131072x32.size a
  hwx0_16 : ∀ i : grid0.Coords, EltTy.bits .f32 = 32 ∨ (Rect.block (s := S131072x32) S1024x32.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x32.size a ≤ S131072x32.size a
  hwx0_17 : ∀ i : grid0.Coords, EltTy.bits .f32 = 32 ∨ (Rect.block (s := S131072x32) S1024x32.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x32.size a ≤ S131072x32.size a
  hwx0_18 : ∀ i : grid0.Coords, EltTy.bits .f32 = 32 ∨ (Rect.block (s := S131072x32) S1024x32.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x32.size a ≤ S131072x32.size a
  hwx0_19 : ∀ i : grid0.Coords, EltTy.bits .f32 = 32 ∨ (Rect.block (s := S131072x32) S1024x32.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x32.size a ≤ S131072x32.size a
  hwx0_20 : ∀ i : grid0.Coords, EltTy.bits .f32 = 32 ∨ (Rect.block (s := S131072x32) S1024x32.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x32.size a ≤ S131072x32.size a
  hwx0_21 : ∀ i : grid0.Coords, EltTy.bits .f32 = 32 ∨ (Rect.block (s := S131072x32) S1024x32.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x32.size a ≤ S131072x32.size a
  hwx0_22 : ∀ i : grid0.Coords, EltTy.bits .f32 = 32 ∨ (Rect.block (s := S131072x32) S1024x32.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x32.size a ≤ S131072x32.size a
  hwx0_23 : ∀ i : grid0.Coords, EltTy.bits .f32 = 32 ∨ (Rect.block (s := S131072x32) S1024x32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x64.size a ≤ S128x64.size a
  hwx0_24 : ∀ i : grid0.Coords, EltTy.bits .f32 = 32 ∨ (Rect.block (s := S128x64) S128x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64x16.size a ≤ S64x16.size a
  hwx0_25 : ∀ i : grid0.Coords, EltTy.bits .f32 = 32 ∨ (Rect.block (s := S64x16) S64x16.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x16.size a ≤ S131072x16.size a
  hwx0_26 : ∀ i : grid0.Coords, EltTy.bits .f32 = 32 ∨ (Rect.block (s := S131072x16) S1024x16.size (cc0_transform_26 i) (hinb0_26 i)).WholeWords (EltTy.packing .f32)

variable [Facts₀]

def gather_S131072x4_S2x1_S131072x2_0_1_n_n_1_1_1310721 : GatherDims S131072x4 S2x1 S131072x2 where
  offsetDims := [0]
  collapsedSliceDims := [1]
  operandBatchingDims := []
  startIndicesBatchingDims := []
  startIndexMap := [1]
  indexVectorDim := 1
  sliceSizes := ![131072, 1]
  wf := gather_S131072x4_S2x1_S131072x2_0_1_n_n_1_1_1310721_wf
def gather_S32x64x64_S131072x2_S32x131072_0_12_n_n_12_1_3211 : GatherDims S32x64x64 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x64x64_S131072x2_S32x131072_0_12_n_n_12_1_3211_wf
def gather_S32x150x64_S131072x2_S32x131072_0_12_n_n_12_1_3211 : GatherDims S32x150x64 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x64_S131072x2_S32x131072_0_12_n_n_12_1_3211_wf
def gather_S32x128x128_S131072x2_S32x131072_0_12_n_n_12_1_3211 : GatherDims S32x128x128 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x128x128_S131072x2_S32x131072_0_12_n_n_12_1_3211_wf
def gather_S32x150x128_S131072x2_S32x131072_0_12_n_n_12_1_3211 : GatherDims S32x150x128 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x128_S131072x2_S32x131072_0_12_n_n_12_1_3211_wf
def gather_S32x256x256_S131072x2_S32x131072_0_12_n_n_12_1_3211 : GatherDims S32x256x256 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x256x256_S131072x2_S32x131072_0_12_n_n_12_1_3211_wf
def gather_S32x150x256_S131072x2_S32x131072_0_12_n_n_12_1_3211 : GatherDims S32x150x256 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x256_S131072x2_S32x131072_0_12_n_n_12_1_3211_wf
def gather_S32x512x512_S131072x2_S32x131072_0_12_n_n_12_1_3211 : GatherDims S32x512x512 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x512x512_S131072x2_S32x131072_0_12_n_n_12_1_3211_wf
def gather_S32x150x512_S131072x2_S32x131072_0_12_n_n_12_1_3211 : GatherDims S32x150x512 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x512_S131072x2_S32x131072_0_12_n_n_12_1_3211_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

abbrev win0_0 : Pipeline.Window sig grid0 :=
  Pipeline.Window.ofSpec (Memref.whole main_v137) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v266) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v395) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v524) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v653) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v782) S1024x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v911) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1040) S1024x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1169) S1024x32.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1298) S1024x32.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1427) S1024x32.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1556) S1024x32.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1685) S1024x32.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1814) S1024x32.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v1943) S1024x32.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2072) S1024x32.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v2201) S1024x32.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v2330) S1024x32.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v2459) S1024x32.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v2588) S1024x32.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v2717) S1024x32.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v2846) S1024x32.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v2975) S1024x32.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v3104) S1024x32.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_arg26) S128x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg27) S64x16.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v3105) S1024x16.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S4096x32x3 : Shape := ⟨3, ![4096, 32, 3]⟩
abbrev S4096 : Shape := ⟨1, ![4096]⟩
abbrev S32x64x64 : Shape := ⟨3, ![32, 64, 64]⟩
abbrev S32x150x64 : Shape := ⟨3, ![32, 150, 64]⟩
abbrev S32x128x128 : Shape := ⟨3, ![32, 128, 128]⟩
abbrev S32x150x128 : Shape := ⟨3, ![32, 150, 128]⟩
abbrev S32x256x256 : Shape := ⟨3, ![32, 256, 256]⟩
abbrev S32x150x256 : Shape := ⟨3, ![32, 150, 256]⟩
abbrev S32x512x512 : Shape := ⟨3, ![32, 512, 512]⟩
abbrev S32x150x512 : Shape := ⟨3, ![32, 150, 512]⟩
abbrev S128x64 : Shape := ⟨2, ![128, 64]⟩
abbrev S64x16 : Shape := ⟨2, ![64, 16]⟩
abbrev S2 : Shape := ⟨1, ![2]⟩
abbrev S_ : Shape := ⟨0, ![]⟩
abbrev S4096x1 : Shape := ⟨2, ![4096, 1]⟩
abbrev S4096x32 : Shape := ⟨2, ![4096, 32]⟩
abbrev S4096x32x1 : Shape := ⟨3, ![4096, 32, 1]⟩
abbrev S4096x32x4 : Shape := ⟨3, ![4096, 32, 4]⟩
abbrev S131072x4 : Shape := ⟨2, ![131072, 4]⟩
abbrev S2x1 : Shape := ⟨2, ![2, 1]⟩
abbrev S131072x2 : Shape := ⟨2, ![131072, 2]⟩
abbrev S131072x1 : Shape := ⟨2, ![131072, 1]⟩
abbrev S131072 : Shape := ⟨1, ![131072]⟩
abbrev S32x131072 : Shape := ⟨2, ![32, 131072]⟩
abbrev S1x131072 : Shape := ⟨2, ![1, 131072]⟩
abbrev S131072x32 : Shape := ⟨2, ![131072, 32]⟩
abbrev S131072x128 : Shape := ⟨2, ![131072, 128]⟩
abbrev S131072x64 : Shape := ⟨2, ![131072, 64]⟩
abbrev S131072x16 : Shape := ⟨2, ![131072, 16]⟩
abbrev S131072x15 : Shape := ⟨2, ![131072, 15]⟩

abbrev nBuf : Space → Nat
  | .hbm => 4581
  | .vmem => 0
  | .smem => 0
  | _ => 0

abbrev hbmTy0_0 (i : Nat) : BufTy := match i % 128 with
  | 0 => ⟨S4096x32x3, .f32⟩
  | 1 => ⟨S4096, .f32⟩
  | 2 => ⟨S32x64x64, .f32⟩
  | 3 => ⟨S32x64x64, .f32⟩
  | 4 => ⟨S32x150x64, .f32⟩
  | 5 => ⟨S32x64x64, .f32⟩
  | 6 => ⟨S32x150x64, .f32⟩
  | 7 => ⟨S32x150x64, .f32⟩
  | 8 => ⟨S32x128x128, .f32⟩
  | 9 => ⟨S32x128x128, .f32⟩
  | 10 => ⟨S32x150x128, .f32⟩
  | 11 => ⟨S32x128x128, .f32⟩
  | 12 => ⟨S32x150x128, .f32⟩
  | 13 => ⟨S32x150x128, .f32⟩
  | 14 => ⟨S32x256x256, .f32⟩
  | 15 => ⟨S32x256x256, .f32⟩
  | 16 => ⟨S32x150x256, .f32⟩
  | 17 => ⟨S32x256x256, .f32⟩
  | 18 => ⟨S32x150x256, .f32⟩
  | 19 => ⟨S32x150x256, .f32⟩
  | 20 => ⟨S32x512x512, .f32⟩
  | 21 => ⟨S32x512x512, .f32⟩
  | 22 => ⟨S32x150x512, .f32⟩
  | 23 => ⟨S32x512x512, .f32⟩
  | 24 => ⟨S32x150x512, .f32⟩
  | 25 => ⟨S32x150x512, .f32⟩
  | 26 => ⟨S128x64, .f32⟩
  | 27 => ⟨S64x16, .f32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .f32⟩
  | 53 => ⟨S4096x32x3, .f32⟩
  | 54 => ⟨S4096x32x3, .f32⟩
  | 55 => ⟨S_, .f32⟩
  | 56 => ⟨S4096x32x3, .f32⟩
  | 57 => ⟨S4096x32x3, .f32⟩
  | 58 => ⟨S4096x1, .f32⟩
  | 59 => ⟨S4096x32, .f32⟩
  | 60 => ⟨S4096x32x1, .f32⟩
  | 61 => ⟨S4096x32x4, .f32⟩
  | 62 => ⟨S131072x4, .f32⟩
  | 63 => ⟨S_, .i32⟩
  | 64 => ⟨S2, .i32⟩
  | 65 => ⟨S2, .i1⟩
  | 66 => ⟨S_, .i32⟩
  | 67 => ⟨S2, .i32⟩
  | 68 => ⟨S2, .i32⟩
  | 69 => ⟨S2, .i32⟩
  | 70 => ⟨S2x1, .i32⟩
  | 71 => ⟨S131072x2, .f32⟩
  | 72 => ⟨S131072x1, .f32⟩
  | 73 => ⟨S131072, .f32⟩
  | 74 => ⟨S_, .f32⟩
  | 75 => ⟨S131072, .f32⟩
  | 76 => ⟨S131072, .f32⟩
  | 77 => ⟨S_, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072x1, .f32⟩
  | 84 => ⟨S131072, .f32⟩
  | 85 => ⟨S_, .f32⟩
  | 86 => ⟨S131072, .f32⟩
  | 87 => ⟨S131072, .f32⟩
  | 88 => ⟨S_, .f32⟩
  | 89 => ⟨S131072, .f32⟩
  | 90 => ⟨S131072, .f32⟩
  | 91 => ⟨S_, .f32⟩
  | 92 => ⟨S131072, .f32⟩
  | 93 => ⟨S131072, .f32⟩
  | 94 => ⟨S131072, .f32⟩
  | 95 => ⟨S131072, .f32⟩
  | 96 => ⟨S131072, .f32⟩
  | 97 => ⟨S131072, .f32⟩
  | 98 => ⟨S131072, .i32⟩
  | 99 => ⟨S_, .i32⟩
  | 100 => ⟨S_, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i32⟩
  | 107 => ⟨S_, .i32⟩
  | 108 => ⟨S131072, .i32⟩
  | 109 => ⟨S131072, .i32⟩
  | 110 => ⟨S_, .i32⟩
  | 111 => ⟨S_, .i32⟩
  | 112 => ⟨S_, .i32⟩
  | 113 => ⟨S131072, .i32⟩
  | 114 => ⟨S131072, .i32⟩
  | 115 => ⟨S_, .i32⟩
  | 116 => ⟨S131072, .i32⟩
  | 117 => ⟨S131072, .i32⟩
  | 118 => ⟨S131072, .i32⟩
  | 119 => ⟨S_, .i32⟩
  | 120 => ⟨S_, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i32⟩
  | 127 => ⟨S_, .i32⟩
  | _ => ⟨S4096x32x3, .f32⟩

abbrev hbmTy0_1 (i : Nat) : BufTy := match i % 128 with
  | 0 => ⟨S131072, .i32⟩
  | 1 => ⟨S131072, .i32⟩
  | 2 => ⟨S_, .i32⟩
  | 3 => ⟨S_, .i32⟩
  | 4 => ⟨S_, .i32⟩
  | 5 => ⟨S131072, .i32⟩
  | 6 => ⟨S131072, .i32⟩
  | 7 => ⟨S_, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S131072x1, .i32⟩
  | 25 => ⟨S131072x1, .i32⟩
  | 26 => ⟨S131072x2, .i32⟩
  | 27 => ⟨S32x131072, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x1, .i32⟩
  | 44 => ⟨S131072x2, .i32⟩
  | 45 => ⟨S32x131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x1, .i32⟩
  | 62 => ⟨S131072x2, .i32⟩
  | 63 => ⟨S32x131072, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S32x131072, .f32⟩
  | 82 => ⟨S_, .f32⟩
  | 83 => ⟨S131072, .f32⟩
  | 84 => ⟨S131072, .f32⟩
  | 85 => ⟨S1x131072, .f32⟩
  | 86 => ⟨S32x131072, .f32⟩
  | 87 => ⟨S32x131072, .f32⟩
  | 88 => ⟨S_, .f32⟩
  | 89 => ⟨S131072, .f32⟩
  | 90 => ⟨S131072, .f32⟩
  | 91 => ⟨S1x131072, .f32⟩
  | 92 => ⟨S32x131072, .f32⟩
  | 93 => ⟨S32x131072, .f32⟩
  | 94 => ⟨S1x131072, .f32⟩
  | 95 => ⟨S32x131072, .f32⟩
  | 96 => ⟨S32x131072, .f32⟩
  | 97 => ⟨S_, .f32⟩
  | 98 => ⟨S131072, .f32⟩
  | 99 => ⟨S131072, .f32⟩
  | 100 => ⟨S1x131072, .f32⟩
  | 101 => ⟨S32x131072, .f32⟩
  | 102 => ⟨S32x131072, .f32⟩
  | 103 => ⟨S32x131072, .f32⟩
  | 104 => ⟨S_, .f32⟩
  | 105 => ⟨S131072, .f32⟩
  | 106 => ⟨S131072, .f32⟩
  | 107 => ⟨S1x131072, .f32⟩
  | 108 => ⟨S32x131072, .f32⟩
  | 109 => ⟨S32x131072, .f32⟩
  | 110 => ⟨S1x131072, .f32⟩
  | 111 => ⟨S32x131072, .f32⟩
  | 112 => ⟨S32x131072, .f32⟩
  | 113 => ⟨S32x131072, .f32⟩
  | 114 => ⟨S1x131072, .f32⟩
  | 115 => ⟨S32x131072, .f32⟩
  | 116 => ⟨S32x131072, .f32⟩
  | 117 => ⟨S1x131072, .f32⟩
  | 118 => ⟨S32x131072, .f32⟩
  | 119 => ⟨S32x131072, .f32⟩
  | 120 => ⟨S32x131072, .f32⟩
  | 121 => ⟨S131072x32, .f32⟩
  | 122 => ⟨S_, .i32⟩
  | 123 => ⟨S2, .i32⟩
  | 124 => ⟨S2, .i1⟩
  | 125 => ⟨S_, .i32⟩
  | 126 => ⟨S2, .i32⟩
  | 127 => ⟨S2, .i32⟩
  | _ => ⟨S4096x32x3, .f32⟩

abbrev hbmTy0_2 (i : Nat) : BufTy := match i % 128 with
  | 0 => ⟨S2, .i32⟩
  | 1 => ⟨S2x1, .i32⟩
  | 2 => ⟨S131072x2, .f32⟩
  | 3 => ⟨S131072x1, .f32⟩
  | 4 => ⟨S131072, .f32⟩
  | 5 => ⟨S_, .f32⟩
  | 6 => ⟨S131072, .f32⟩
  | 7 => ⟨S131072, .f32⟩
  | 8 => ⟨S_, .f32⟩
  | 9 => ⟨S131072, .f32⟩
  | 10 => ⟨S131072, .f32⟩
  | 11 => ⟨S_, .f32⟩
  | 12 => ⟨S131072, .f32⟩
  | 13 => ⟨S131072, .f32⟩
  | 14 => ⟨S131072x1, .f32⟩
  | 15 => ⟨S131072, .f32⟩
  | 16 => ⟨S_, .f32⟩
  | 17 => ⟨S131072, .f32⟩
  | 18 => ⟨S131072, .f32⟩
  | 19 => ⟨S_, .f32⟩
  | 20 => ⟨S131072, .f32⟩
  | 21 => ⟨S131072, .f32⟩
  | 22 => ⟨S_, .f32⟩
  | 23 => ⟨S131072, .f32⟩
  | 24 => ⟨S131072, .f32⟩
  | 25 => ⟨S131072, .f32⟩
  | 26 => ⟨S131072, .f32⟩
  | 27 => ⟨S131072, .f32⟩
  | 28 => ⟨S131072, .f32⟩
  | 29 => ⟨S131072, .i32⟩
  | 30 => ⟨S_, .i32⟩
  | 31 => ⟨S_, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i32⟩
  | 38 => ⟨S_, .i32⟩
  | 39 => ⟨S131072, .i32⟩
  | 40 => ⟨S131072, .i32⟩
  | 41 => ⟨S_, .i32⟩
  | 42 => ⟨S_, .i32⟩
  | 43 => ⟨S_, .i32⟩
  | 44 => ⟨S131072, .i32⟩
  | 45 => ⟨S131072, .i32⟩
  | 46 => ⟨S_, .i32⟩
  | 47 => ⟨S131072, .i32⟩
  | 48 => ⟨S131072, .i32⟩
  | 49 => ⟨S131072, .i32⟩
  | 50 => ⟨S_, .i32⟩
  | 51 => ⟨S_, .i32⟩
  | 52 => ⟨S_, .i32⟩
  | 53 => ⟨S131072, .i32⟩
  | 54 => ⟨S131072, .i32⟩
  | 55 => ⟨S_, .i32⟩
  | 56 => ⟨S131072, .i32⟩
  | 57 => ⟨S131072, .i32⟩
  | 58 => ⟨S_, .i32⟩
  | 59 => ⟨S131072, .i32⟩
  | 60 => ⟨S131072, .i32⟩
  | 61 => ⟨S_, .i32⟩
  | 62 => ⟨S_, .i32⟩
  | 63 => ⟨S_, .i32⟩
  | 64 => ⟨S131072, .i32⟩
  | 65 => ⟨S131072, .i32⟩
  | 66 => ⟨S_, .i32⟩
  | 67 => ⟨S131072, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x1, .i32⟩
  | 85 => ⟨S131072x2, .i32⟩
  | 86 => ⟨S32x131072, .f32⟩
  | 87 => ⟨S_, .i32⟩
  | 88 => ⟨S131072, .i32⟩
  | 89 => ⟨S131072, .i1⟩
  | 90 => ⟨S_, .i32⟩
  | 91 => ⟨S131072, .i32⟩
  | 92 => ⟨S131072, .i32⟩
  | 93 => ⟨S131072, .i32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072x1, .i32⟩
  | 103 => ⟨S131072x2, .i32⟩
  | 104 => ⟨S32x131072, .f32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x1, .i32⟩
  | 121 => ⟨S131072x2, .i32⟩
  | 122 => ⟨S32x131072, .f32⟩
  | 123 => ⟨S_, .i32⟩
  | 124 => ⟨S131072, .i32⟩
  | 125 => ⟨S131072, .i1⟩
  | 126 => ⟨S_, .i32⟩
  | 127 => ⟨S131072, .i32⟩
  | _ => ⟨S4096x32x3, .f32⟩

abbrev hbmTy0_3 (i : Nat) : BufTy := match i % 128 with
  | 0 => ⟨S131072, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i32⟩
  | 8 => ⟨S131072, .i32⟩
  | 9 => ⟨S131072x1, .i32⟩
  | 10 => ⟨S131072x1, .i32⟩
  | 11 => ⟨S131072x2, .i32⟩
  | 12 => ⟨S32x131072, .f32⟩
  | 13 => ⟨S_, .f32⟩
  | 14 => ⟨S131072, .f32⟩
  | 15 => ⟨S131072, .f32⟩
  | 16 => ⟨S1x131072, .f32⟩
  | 17 => ⟨S32x131072, .f32⟩
  | 18 => ⟨S32x131072, .f32⟩
  | 19 => ⟨S_, .f32⟩
  | 20 => ⟨S131072, .f32⟩
  | 21 => ⟨S131072, .f32⟩
  | 22 => ⟨S1x131072, .f32⟩
  | 23 => ⟨S32x131072, .f32⟩
  | 24 => ⟨S32x131072, .f32⟩
  | 25 => ⟨S1x131072, .f32⟩
  | 26 => ⟨S32x131072, .f32⟩
  | 27 => ⟨S32x131072, .f32⟩
  | 28 => ⟨S_, .f32⟩
  | 29 => ⟨S131072, .f32⟩
  | 30 => ⟨S131072, .f32⟩
  | 31 => ⟨S1x131072, .f32⟩
  | 32 => ⟨S32x131072, .f32⟩
  | 33 => ⟨S32x131072, .f32⟩
  | 34 => ⟨S32x131072, .f32⟩
  | 35 => ⟨S_, .f32⟩
  | 36 => ⟨S131072, .f32⟩
  | 37 => ⟨S131072, .f32⟩
  | 38 => ⟨S1x131072, .f32⟩
  | 39 => ⟨S32x131072, .f32⟩
  | 40 => ⟨S32x131072, .f32⟩
  | 41 => ⟨S1x131072, .f32⟩
  | 42 => ⟨S32x131072, .f32⟩
  | 43 => ⟨S32x131072, .f32⟩
  | 44 => ⟨S32x131072, .f32⟩
  | 45 => ⟨S1x131072, .f32⟩
  | 46 => ⟨S32x131072, .f32⟩
  | 47 => ⟨S32x131072, .f32⟩
  | 48 => ⟨S1x131072, .f32⟩
  | 49 => ⟨S32x131072, .f32⟩
  | 50 => ⟨S32x131072, .f32⟩
  | 51 => ⟨S32x131072, .f32⟩
  | 52 => ⟨S131072x32, .f32⟩
  | 53 => ⟨S131072x32, .f32⟩
  | 54 => ⟨S_, .i32⟩
  | 55 => ⟨S2, .i32⟩
  | 56 => ⟨S2, .i1⟩
  | 57 => ⟨S_, .i32⟩
  | 58 => ⟨S2, .i32⟩
  | 59 => ⟨S2, .i32⟩
  | 60 => ⟨S2, .i32⟩
  | 61 => ⟨S2x1, .i32⟩
  | 62 => ⟨S131072x2, .f32⟩
  | 63 => ⟨S131072x1, .f32⟩
  | 64 => ⟨S131072, .f32⟩
  | 65 => ⟨S_, .f32⟩
  | 66 => ⟨S131072, .f32⟩
  | 67 => ⟨S131072, .f32⟩
  | 68 => ⟨S_, .f32⟩
  | 69 => ⟨S131072, .f32⟩
  | 70 => ⟨S131072, .f32⟩
  | 71 => ⟨S_, .f32⟩
  | 72 => ⟨S131072, .f32⟩
  | 73 => ⟨S131072, .f32⟩
  | 74 => ⟨S131072x1, .f32⟩
  | 75 => ⟨S131072, .f32⟩
  | 76 => ⟨S_, .f32⟩
  | 77 => ⟨S131072, .f32⟩
  | 78 => ⟨S131072, .f32⟩
  | 79 => ⟨S_, .f32⟩
  | 80 => ⟨S131072, .f32⟩
  | 81 => ⟨S131072, .f32⟩
  | 82 => ⟨S_, .f32⟩
  | 83 => ⟨S131072, .f32⟩
  | 84 => ⟨S131072, .f32⟩
  | 85 => ⟨S131072, .f32⟩
  | 86 => ⟨S131072, .f32⟩
  | 87 => ⟨S131072, .f32⟩
  | 88 => ⟨S131072, .f32⟩
  | 89 => ⟨S131072, .i32⟩
  | 90 => ⟨S_, .i32⟩
  | 91 => ⟨S_, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i32⟩
  | 98 => ⟨S_, .i32⟩
  | 99 => ⟨S131072, .i32⟩
  | 100 => ⟨S131072, .i32⟩
  | 101 => ⟨S_, .i32⟩
  | 102 => ⟨S_, .i32⟩
  | 103 => ⟨S_, .i32⟩
  | 104 => ⟨S131072, .i32⟩
  | 105 => ⟨S131072, .i32⟩
  | 106 => ⟨S_, .i32⟩
  | 107 => ⟨S131072, .i32⟩
  | 108 => ⟨S131072, .i32⟩
  | 109 => ⟨S131072, .i32⟩
  | 110 => ⟨S_, .i32⟩
  | 111 => ⟨S_, .i32⟩
  | 112 => ⟨S_, .i32⟩
  | 113 => ⟨S131072, .i32⟩
  | 114 => ⟨S131072, .i32⟩
  | 115 => ⟨S_, .i32⟩
  | 116 => ⟨S131072, .i32⟩
  | 117 => ⟨S131072, .i32⟩
  | 118 => ⟨S_, .i32⟩
  | 119 => ⟨S131072, .i32⟩
  | 120 => ⟨S131072, .i32⟩
  | 121 => ⟨S_, .i32⟩
  | 122 => ⟨S_, .i32⟩
  | 123 => ⟨S_, .i32⟩
  | 124 => ⟨S131072, .i32⟩
  | 125 => ⟨S131072, .i32⟩
  | 126 => ⟨S_, .i32⟩
  | 127 => ⟨S131072, .i32⟩
  | _ => ⟨S4096x32x3, .f32⟩

abbrev hbmTy0_4 (i : Nat) : BufTy := match i % 128 with
  | 0 => ⟨S131072, .i32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S131072x1, .i32⟩
  | 16 => ⟨S131072x1, .i32⟩
  | 17 => ⟨S131072x2, .i32⟩
  | 18 => ⟨S32x131072, .f32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072x1, .i32⟩
  | 35 => ⟨S131072x2, .i32⟩
  | 36 => ⟨S32x131072, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072x1, .i32⟩
  | 53 => ⟨S131072x2, .i32⟩
  | 54 => ⟨S32x131072, .f32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x1, .i32⟩
  | 71 => ⟨S131072x2, .i32⟩
  | 72 => ⟨S32x131072, .f32⟩
  | 73 => ⟨S_, .f32⟩
  | 74 => ⟨S131072, .f32⟩
  | 75 => ⟨S131072, .f32⟩
  | 76 => ⟨S1x131072, .f32⟩
  | 77 => ⟨S32x131072, .f32⟩
  | 78 => ⟨S32x131072, .f32⟩
  | 79 => ⟨S_, .f32⟩
  | 80 => ⟨S131072, .f32⟩
  | 81 => ⟨S131072, .f32⟩
  | 82 => ⟨S1x131072, .f32⟩
  | 83 => ⟨S32x131072, .f32⟩
  | 84 => ⟨S32x131072, .f32⟩
  | 85 => ⟨S1x131072, .f32⟩
  | 86 => ⟨S32x131072, .f32⟩
  | 87 => ⟨S32x131072, .f32⟩
  | 88 => ⟨S_, .f32⟩
  | 89 => ⟨S131072, .f32⟩
  | 90 => ⟨S131072, .f32⟩
  | 91 => ⟨S1x131072, .f32⟩
  | 92 => ⟨S32x131072, .f32⟩
  | 93 => ⟨S32x131072, .f32⟩
  | 94 => ⟨S32x131072, .f32⟩
  | 95 => ⟨S_, .f32⟩
  | 96 => ⟨S131072, .f32⟩
  | 97 => ⟨S131072, .f32⟩
  | 98 => ⟨S1x131072, .f32⟩
  | 99 => ⟨S32x131072, .f32⟩
  | 100 => ⟨S32x131072, .f32⟩
  | 101 => ⟨S1x131072, .f32⟩
  | 102 => ⟨S32x131072, .f32⟩
  | 103 => ⟨S32x131072, .f32⟩
  | 104 => ⟨S32x131072, .f32⟩
  | 105 => ⟨S1x131072, .f32⟩
  | 106 => ⟨S32x131072, .f32⟩
  | 107 => ⟨S32x131072, .f32⟩
  | 108 => ⟨S1x131072, .f32⟩
  | 109 => ⟨S32x131072, .f32⟩
  | 110 => ⟨S32x131072, .f32⟩
  | 111 => ⟨S32x131072, .f32⟩
  | 112 => ⟨S131072x32, .f32⟩
  | 113 => ⟨S131072x32, .f32⟩
  | 114 => ⟨S_, .i32⟩
  | 115 => ⟨S2, .i32⟩
  | 116 => ⟨S2, .i1⟩
  | 117 => ⟨S_, .i32⟩
  | 118 => ⟨S2, .i32⟩
  | 119 => ⟨S2, .i32⟩
  | 120 => ⟨S2, .i32⟩
  | 121 => ⟨S2x1, .i32⟩
  | 122 => ⟨S131072x2, .f32⟩
  | 123 => ⟨S131072x1, .f32⟩
  | 124 => ⟨S131072, .f32⟩
  | 125 => ⟨S_, .f32⟩
  | 126 => ⟨S131072, .f32⟩
  | 127 => ⟨S131072, .f32⟩
  | _ => ⟨S4096x32x3, .f32⟩

abbrev hbmTy0_5 (i : Nat) : BufTy := match i % 128 with
  | 0 => ⟨S_, .f32⟩
  | 1 => ⟨S131072, .f32⟩
  | 2 => ⟨S131072, .f32⟩
  | 3 => ⟨S_, .f32⟩
  | 4 => ⟨S131072, .f32⟩
  | 5 => ⟨S131072, .f32⟩
  | 6 => ⟨S131072x1, .f32⟩
  | 7 => ⟨S131072, .f32⟩
  | 8 => ⟨S_, .f32⟩
  | 9 => ⟨S131072, .f32⟩
  | 10 => ⟨S131072, .f32⟩
  | 11 => ⟨S_, .f32⟩
  | 12 => ⟨S131072, .f32⟩
  | 13 => ⟨S131072, .f32⟩
  | 14 => ⟨S_, .f32⟩
  | 15 => ⟨S131072, .f32⟩
  | 16 => ⟨S131072, .f32⟩
  | 17 => ⟨S131072, .f32⟩
  | 18 => ⟨S131072, .f32⟩
  | 19 => ⟨S131072, .f32⟩
  | 20 => ⟨S131072, .f32⟩
  | 21 => ⟨S131072, .i32⟩
  | 22 => ⟨S_, .i32⟩
  | 23 => ⟨S_, .i32⟩
  | 24 => ⟨S_, .i32⟩
  | 25 => ⟨S131072, .i32⟩
  | 26 => ⟨S131072, .i32⟩
  | 27 => ⟨S_, .i32⟩
  | 28 => ⟨S131072, .i32⟩
  | 29 => ⟨S131072, .i32⟩
  | 30 => ⟨S_, .i32⟩
  | 31 => ⟨S131072, .i32⟩
  | 32 => ⟨S131072, .i32⟩
  | 33 => ⟨S_, .i32⟩
  | 34 => ⟨S_, .i32⟩
  | 35 => ⟨S_, .i32⟩
  | 36 => ⟨S131072, .i32⟩
  | 37 => ⟨S131072, .i32⟩
  | 38 => ⟨S_, .i32⟩
  | 39 => ⟨S131072, .i32⟩
  | 40 => ⟨S131072, .i32⟩
  | 41 => ⟨S131072, .i32⟩
  | 42 => ⟨S_, .i32⟩
  | 43 => ⟨S_, .i32⟩
  | 44 => ⟨S_, .i32⟩
  | 45 => ⟨S131072, .i32⟩
  | 46 => ⟨S131072, .i32⟩
  | 47 => ⟨S_, .i32⟩
  | 48 => ⟨S131072, .i32⟩
  | 49 => ⟨S131072, .i32⟩
  | 50 => ⟨S_, .i32⟩
  | 51 => ⟨S131072, .i32⟩
  | 52 => ⟨S131072, .i32⟩
  | 53 => ⟨S_, .i32⟩
  | 54 => ⟨S_, .i32⟩
  | 55 => ⟨S_, .i32⟩
  | 56 => ⟨S131072, .i32⟩
  | 57 => ⟨S131072, .i32⟩
  | 58 => ⟨S_, .i32⟩
  | 59 => ⟨S131072, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072x1, .i32⟩
  | 77 => ⟨S131072x2, .i32⟩
  | 78 => ⟨S32x131072, .f32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S131072x1, .i32⟩
  | 94 => ⟨S131072x1, .i32⟩
  | 95 => ⟨S131072x2, .i32⟩
  | 96 => ⟨S32x131072, .f32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072x1, .i32⟩
  | 113 => ⟨S131072x2, .i32⟩
  | 114 => ⟨S32x131072, .f32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S4096x32x3, .f32⟩

abbrev hbmTy0_6 (i : Nat) : BufTy := match i % 128 with
  | 0 => ⟨S131072, .i32⟩
  | 1 => ⟨S131072x1, .i32⟩
  | 2 => ⟨S131072x1, .i32⟩
  | 3 => ⟨S131072x2, .i32⟩
  | 4 => ⟨S32x131072, .f32⟩
  | 5 => ⟨S_, .f32⟩
  | 6 => ⟨S131072, .f32⟩
  | 7 => ⟨S131072, .f32⟩
  | 8 => ⟨S1x131072, .f32⟩
  | 9 => ⟨S32x131072, .f32⟩
  | 10 => ⟨S32x131072, .f32⟩
  | 11 => ⟨S_, .f32⟩
  | 12 => ⟨S131072, .f32⟩
  | 13 => ⟨S131072, .f32⟩
  | 14 => ⟨S1x131072, .f32⟩
  | 15 => ⟨S32x131072, .f32⟩
  | 16 => ⟨S32x131072, .f32⟩
  | 17 => ⟨S1x131072, .f32⟩
  | 18 => ⟨S32x131072, .f32⟩
  | 19 => ⟨S32x131072, .f32⟩
  | 20 => ⟨S_, .f32⟩
  | 21 => ⟨S131072, .f32⟩
  | 22 => ⟨S131072, .f32⟩
  | 23 => ⟨S1x131072, .f32⟩
  | 24 => ⟨S32x131072, .f32⟩
  | 25 => ⟨S32x131072, .f32⟩
  | 26 => ⟨S32x131072, .f32⟩
  | 27 => ⟨S_, .f32⟩
  | 28 => ⟨S131072, .f32⟩
  | 29 => ⟨S131072, .f32⟩
  | 30 => ⟨S1x131072, .f32⟩
  | 31 => ⟨S32x131072, .f32⟩
  | 32 => ⟨S32x131072, .f32⟩
  | 33 => ⟨S1x131072, .f32⟩
  | 34 => ⟨S32x131072, .f32⟩
  | 35 => ⟨S32x131072, .f32⟩
  | 36 => ⟨S32x131072, .f32⟩
  | 37 => ⟨S1x131072, .f32⟩
  | 38 => ⟨S32x131072, .f32⟩
  | 39 => ⟨S32x131072, .f32⟩
  | 40 => ⟨S1x131072, .f32⟩
  | 41 => ⟨S32x131072, .f32⟩
  | 42 => ⟨S32x131072, .f32⟩
  | 43 => ⟨S32x131072, .f32⟩
  | 44 => ⟨S131072x32, .f32⟩
  | 45 => ⟨S131072x32, .f32⟩
  | 46 => ⟨S_, .i32⟩
  | 47 => ⟨S2, .i32⟩
  | 48 => ⟨S2, .i1⟩
  | 49 => ⟨S_, .i32⟩
  | 50 => ⟨S2, .i32⟩
  | 51 => ⟨S2, .i32⟩
  | 52 => ⟨S2, .i32⟩
  | 53 => ⟨S2x1, .i32⟩
  | 54 => ⟨S131072x2, .f32⟩
  | 55 => ⟨S131072x1, .f32⟩
  | 56 => ⟨S131072, .f32⟩
  | 57 => ⟨S_, .f32⟩
  | 58 => ⟨S131072, .f32⟩
  | 59 => ⟨S131072, .f32⟩
  | 60 => ⟨S_, .f32⟩
  | 61 => ⟨S131072, .f32⟩
  | 62 => ⟨S131072, .f32⟩
  | 63 => ⟨S_, .f32⟩
  | 64 => ⟨S131072, .f32⟩
  | 65 => ⟨S131072, .f32⟩
  | 66 => ⟨S131072x1, .f32⟩
  | 67 => ⟨S131072, .f32⟩
  | 68 => ⟨S_, .f32⟩
  | 69 => ⟨S131072, .f32⟩
  | 70 => ⟨S131072, .f32⟩
  | 71 => ⟨S_, .f32⟩
  | 72 => ⟨S131072, .f32⟩
  | 73 => ⟨S131072, .f32⟩
  | 74 => ⟨S_, .f32⟩
  | 75 => ⟨S131072, .f32⟩
  | 76 => ⟨S131072, .f32⟩
  | 77 => ⟨S131072, .f32⟩
  | 78 => ⟨S131072, .f32⟩
  | 79 => ⟨S131072, .f32⟩
  | 80 => ⟨S131072, .f32⟩
  | 81 => ⟨S131072, .i32⟩
  | 82 => ⟨S_, .i32⟩
  | 83 => ⟨S_, .i32⟩
  | 84 => ⟨S_, .i32⟩
  | 85 => ⟨S131072, .i32⟩
  | 86 => ⟨S131072, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i32⟩
  | 93 => ⟨S_, .i32⟩
  | 94 => ⟨S_, .i32⟩
  | 95 => ⟨S_, .i32⟩
  | 96 => ⟨S131072, .i32⟩
  | 97 => ⟨S131072, .i32⟩
  | 98 => ⟨S_, .i32⟩
  | 99 => ⟨S131072, .i32⟩
  | 100 => ⟨S131072, .i32⟩
  | 101 => ⟨S131072, .i32⟩
  | 102 => ⟨S_, .i32⟩
  | 103 => ⟨S_, .i32⟩
  | 104 => ⟨S_, .i32⟩
  | 105 => ⟨S131072, .i32⟩
  | 106 => ⟨S131072, .i32⟩
  | 107 => ⟨S_, .i32⟩
  | 108 => ⟨S131072, .i32⟩
  | 109 => ⟨S131072, .i32⟩
  | 110 => ⟨S_, .i32⟩
  | 111 => ⟨S131072, .i32⟩
  | 112 => ⟨S131072, .i32⟩
  | 113 => ⟨S_, .i32⟩
  | 114 => ⟨S_, .i32⟩
  | 115 => ⟨S_, .i32⟩
  | 116 => ⟨S131072, .i32⟩
  | 117 => ⟨S131072, .i32⟩
  | 118 => ⟨S_, .i32⟩
  | 119 => ⟨S131072, .i32⟩
  | 120 => ⟨S131072, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S4096x32x3, .f32⟩

abbrev hbmTy0_7 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i32⟩
  | 6 => ⟨S131072, .i32⟩
  | 7 => ⟨S131072x1, .i32⟩
  | 8 => ⟨S131072x1, .i32⟩
  | 9 => ⟨S131072x2, .i32⟩
  | 10 => ⟨S32x131072, .f32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S131072x1, .i32⟩
  | 27 => ⟨S131072x2, .i32⟩
  | 28 => ⟨S32x131072, .f32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S131072x1, .i32⟩
  | 45 => ⟨S131072x2, .i32⟩
  | 46 => ⟨S32x131072, .f32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S131072x1, .i32⟩
  | 63 => ⟨S131072x2, .i32⟩
  | 64 => ⟨S32x131072, .f32⟩
  | 65 => ⟨S_, .f32⟩
  | 66 => ⟨S131072, .f32⟩
  | 67 => ⟨S131072, .f32⟩
  | 68 => ⟨S1x131072, .f32⟩
  | 69 => ⟨S32x131072, .f32⟩
  | 70 => ⟨S32x131072, .f32⟩
  | 71 => ⟨S_, .f32⟩
  | 72 => ⟨S131072, .f32⟩
  | 73 => ⟨S131072, .f32⟩
  | 74 => ⟨S1x131072, .f32⟩
  | 75 => ⟨S32x131072, .f32⟩
  | 76 => ⟨S32x131072, .f32⟩
  | 77 => ⟨S1x131072, .f32⟩
  | 78 => ⟨S32x131072, .f32⟩
  | 79 => ⟨S32x131072, .f32⟩
  | 80 => ⟨S_, .f32⟩
  | 81 => ⟨S131072, .f32⟩
  | 82 => ⟨S131072, .f32⟩
  | 83 => ⟨S1x131072, .f32⟩
  | 84 => ⟨S32x131072, .f32⟩
  | 85 => ⟨S32x131072, .f32⟩
  | 86 => ⟨S32x131072, .f32⟩
  | 87 => ⟨S_, .f32⟩
  | 88 => ⟨S131072, .f32⟩
  | 89 => ⟨S131072, .f32⟩
  | 90 => ⟨S1x131072, .f32⟩
  | 91 => ⟨S32x131072, .f32⟩
  | 92 => ⟨S32x131072, .f32⟩
  | 93 => ⟨S1x131072, .f32⟩
  | 94 => ⟨S32x131072, .f32⟩
  | 95 => ⟨S32x131072, .f32⟩
  | 96 => ⟨S32x131072, .f32⟩
  | 97 => ⟨S1x131072, .f32⟩
  | 98 => ⟨S32x131072, .f32⟩
  | 99 => ⟨S32x131072, .f32⟩
  | 100 => ⟨S1x131072, .f32⟩
  | 101 => ⟨S32x131072, .f32⟩
  | 102 => ⟨S32x131072, .f32⟩
  | 103 => ⟨S32x131072, .f32⟩
  | 104 => ⟨S131072x32, .f32⟩
  | 105 => ⟨S131072x32, .f32⟩
  | 106 => ⟨S_, .i32⟩
  | 107 => ⟨S2, .i32⟩
  | 108 => ⟨S2, .i1⟩
  | 109 => ⟨S_, .i32⟩
  | 110 => ⟨S2, .i32⟩
  | 111 => ⟨S2, .i32⟩
  | 112 => ⟨S2, .i32⟩
  | 113 => ⟨S2x1, .i32⟩
  | 114 => ⟨S131072x2, .f32⟩
  | 115 => ⟨S131072x1, .f32⟩
  | 116 => ⟨S131072, .f32⟩
  | 117 => ⟨S_, .f32⟩
  | 118 => ⟨S131072, .f32⟩
  | 119 => ⟨S131072, .f32⟩
  | 120 => ⟨S_, .f32⟩
  | 121 => ⟨S131072, .f32⟩
  | 122 => ⟨S131072, .f32⟩
  | 123 => ⟨S_, .f32⟩
  | 124 => ⟨S131072, .f32⟩
  | 125 => ⟨S131072, .f32⟩
  | 126 => ⟨S131072x1, .f32⟩
  | 127 => ⟨S131072, .f32⟩
  | _ => ⟨S4096x32x3, .f32⟩

abbrev hbmTy0_8 (i : Nat) : BufTy := match i % 128 with
  | 0 => ⟨S_, .f32⟩
  | 1 => ⟨S131072, .f32⟩
  | 2 => ⟨S131072, .f32⟩
  | 3 => ⟨S_, .f32⟩
  | 4 => ⟨S131072, .f32⟩
  | 5 => ⟨S131072, .f32⟩
  | 6 => ⟨S_, .f32⟩
  | 7 => ⟨S131072, .f32⟩
  | 8 => ⟨S131072, .f32⟩
  | 9 => ⟨S131072, .f32⟩
  | 10 => ⟨S131072, .f32⟩
  | 11 => ⟨S131072, .f32⟩
  | 12 => ⟨S131072, .f32⟩
  | 13 => ⟨S131072, .i32⟩
  | 14 => ⟨S_, .i32⟩
  | 15 => ⟨S_, .i32⟩
  | 16 => ⟨S_, .i32⟩
  | 17 => ⟨S131072, .i32⟩
  | 18 => ⟨S131072, .i32⟩
  | 19 => ⟨S_, .i32⟩
  | 20 => ⟨S131072, .i32⟩
  | 21 => ⟨S131072, .i32⟩
  | 22 => ⟨S_, .i32⟩
  | 23 => ⟨S131072, .i32⟩
  | 24 => ⟨S131072, .i32⟩
  | 25 => ⟨S_, .i32⟩
  | 26 => ⟨S_, .i32⟩
  | 27 => ⟨S_, .i32⟩
  | 28 => ⟨S131072, .i32⟩
  | 29 => ⟨S131072, .i32⟩
  | 30 => ⟨S_, .i32⟩
  | 31 => ⟨S131072, .i32⟩
  | 32 => ⟨S131072, .i32⟩
  | 33 => ⟨S131072, .i32⟩
  | 34 => ⟨S_, .i32⟩
  | 35 => ⟨S_, .i32⟩
  | 36 => ⟨S_, .i32⟩
  | 37 => ⟨S131072, .i32⟩
  | 38 => ⟨S131072, .i32⟩
  | 39 => ⟨S_, .i32⟩
  | 40 => ⟨S131072, .i32⟩
  | 41 => ⟨S131072, .i32⟩
  | 42 => ⟨S_, .i32⟩
  | 43 => ⟨S131072, .i32⟩
  | 44 => ⟨S131072, .i32⟩
  | 45 => ⟨S_, .i32⟩
  | 46 => ⟨S_, .i32⟩
  | 47 => ⟨S_, .i32⟩
  | 48 => ⟨S131072, .i32⟩
  | 49 => ⟨S131072, .i32⟩
  | 50 => ⟨S_, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x1, .i32⟩
  | 69 => ⟨S131072x2, .i32⟩
  | 70 => ⟨S32x131072, .f32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S131072x1, .i32⟩
  | 87 => ⟨S131072x2, .i32⟩
  | 88 => ⟨S32x131072, .f32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S131072x1, .i32⟩
  | 104 => ⟨S131072x1, .i32⟩
  | 105 => ⟨S131072x2, .i32⟩
  | 106 => ⟨S32x131072, .f32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x1, .i32⟩
  | 123 => ⟨S131072x2, .i32⟩
  | 124 => ⟨S32x131072, .f32⟩
  | 125 => ⟨S_, .f32⟩
  | 126 => ⟨S131072, .f32⟩
  | 127 => ⟨S131072, .f32⟩
  | _ => ⟨S4096x32x3, .f32⟩

abbrev hbmTy0_9 (i : Nat) : BufTy := match i % 128 with
  | 0 => ⟨S1x131072, .f32⟩
  | 1 => ⟨S32x131072, .f32⟩
  | 2 => ⟨S32x131072, .f32⟩
  | 3 => ⟨S_, .f32⟩
  | 4 => ⟨S131072, .f32⟩
  | 5 => ⟨S131072, .f32⟩
  | 6 => ⟨S1x131072, .f32⟩
  | 7 => ⟨S32x131072, .f32⟩
  | 8 => ⟨S32x131072, .f32⟩
  | 9 => ⟨S1x131072, .f32⟩
  | 10 => ⟨S32x131072, .f32⟩
  | 11 => ⟨S32x131072, .f32⟩
  | 12 => ⟨S_, .f32⟩
  | 13 => ⟨S131072, .f32⟩
  | 14 => ⟨S131072, .f32⟩
  | 15 => ⟨S1x131072, .f32⟩
  | 16 => ⟨S32x131072, .f32⟩
  | 17 => ⟨S32x131072, .f32⟩
  | 18 => ⟨S32x131072, .f32⟩
  | 19 => ⟨S_, .f32⟩
  | 20 => ⟨S131072, .f32⟩
  | 21 => ⟨S131072, .f32⟩
  | 22 => ⟨S1x131072, .f32⟩
  | 23 => ⟨S32x131072, .f32⟩
  | 24 => ⟨S32x131072, .f32⟩
  | 25 => ⟨S1x131072, .f32⟩
  | 26 => ⟨S32x131072, .f32⟩
  | 27 => ⟨S32x131072, .f32⟩
  | 28 => ⟨S32x131072, .f32⟩
  | 29 => ⟨S1x131072, .f32⟩
  | 30 => ⟨S32x131072, .f32⟩
  | 31 => ⟨S32x131072, .f32⟩
  | 32 => ⟨S1x131072, .f32⟩
  | 33 => ⟨S32x131072, .f32⟩
  | 34 => ⟨S32x131072, .f32⟩
  | 35 => ⟨S32x131072, .f32⟩
  | 36 => ⟨S131072x32, .f32⟩
  | 37 => ⟨S131072x32, .f32⟩
  | 38 => ⟨S_, .i32⟩
  | 39 => ⟨S2, .i32⟩
  | 40 => ⟨S2, .i1⟩
  | 41 => ⟨S_, .i32⟩
  | 42 => ⟨S2, .i32⟩
  | 43 => ⟨S2, .i32⟩
  | 44 => ⟨S2, .i32⟩
  | 45 => ⟨S2x1, .i32⟩
  | 46 => ⟨S131072x2, .f32⟩
  | 47 => ⟨S131072x1, .f32⟩
  | 48 => ⟨S131072, .f32⟩
  | 49 => ⟨S_, .f32⟩
  | 50 => ⟨S131072, .f32⟩
  | 51 => ⟨S131072, .f32⟩
  | 52 => ⟨S_, .f32⟩
  | 53 => ⟨S131072, .f32⟩
  | 54 => ⟨S131072, .f32⟩
  | 55 => ⟨S_, .f32⟩
  | 56 => ⟨S131072, .f32⟩
  | 57 => ⟨S131072, .f32⟩
  | 58 => ⟨S131072x1, .f32⟩
  | 59 => ⟨S131072, .f32⟩
  | 60 => ⟨S_, .f32⟩
  | 61 => ⟨S131072, .f32⟩
  | 62 => ⟨S131072, .f32⟩
  | 63 => ⟨S_, .f32⟩
  | 64 => ⟨S131072, .f32⟩
  | 65 => ⟨S131072, .f32⟩
  | 66 => ⟨S_, .f32⟩
  | 67 => ⟨S131072, .f32⟩
  | 68 => ⟨S131072, .f32⟩
  | 69 => ⟨S131072, .f32⟩
  | 70 => ⟨S131072, .f32⟩
  | 71 => ⟨S131072, .f32⟩
  | 72 => ⟨S131072, .f32⟩
  | 73 => ⟨S131072, .i32⟩
  | 74 => ⟨S_, .i32⟩
  | 75 => ⟨S_, .i32⟩
  | 76 => ⟨S_, .i32⟩
  | 77 => ⟨S131072, .i32⟩
  | 78 => ⟨S131072, .i32⟩
  | 79 => ⟨S_, .i32⟩
  | 80 => ⟨S131072, .i32⟩
  | 81 => ⟨S131072, .i32⟩
  | 82 => ⟨S_, .i32⟩
  | 83 => ⟨S131072, .i32⟩
  | 84 => ⟨S131072, .i32⟩
  | 85 => ⟨S_, .i32⟩
  | 86 => ⟨S_, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i32⟩
  | 93 => ⟨S131072, .i32⟩
  | 94 => ⟨S_, .i32⟩
  | 95 => ⟨S_, .i32⟩
  | 96 => ⟨S_, .i32⟩
  | 97 => ⟨S131072, .i32⟩
  | 98 => ⟨S131072, .i32⟩
  | 99 => ⟨S_, .i32⟩
  | 100 => ⟨S131072, .i32⟩
  | 101 => ⟨S131072, .i32⟩
  | 102 => ⟨S_, .i32⟩
  | 103 => ⟨S131072, .i32⟩
  | 104 => ⟨S131072, .i32⟩
  | 105 => ⟨S_, .i32⟩
  | 106 => ⟨S_, .i32⟩
  | 107 => ⟨S_, .i32⟩
  | 108 => ⟨S131072, .i32⟩
  | 109 => ⟨S131072, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S4096x32x3, .f32⟩

abbrev hbmTy0_10 (i : Nat) : BufTy := match i % 128 with
  | 0 => ⟨S131072x1, .i32⟩
  | 1 => ⟨S131072x2, .i32⟩
  | 2 => ⟨S32x131072, .f32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S131072x1, .i32⟩
  | 18 => ⟨S131072x1, .i32⟩
  | 19 => ⟨S131072x2, .i32⟩
  | 20 => ⟨S32x131072, .f32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072x1, .i32⟩
  | 37 => ⟨S131072x2, .i32⟩
  | 38 => ⟨S32x131072, .f32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x1, .i32⟩
  | 55 => ⟨S131072x2, .i32⟩
  | 56 => ⟨S32x131072, .f32⟩
  | 57 => ⟨S_, .f32⟩
  | 58 => ⟨S131072, .f32⟩
  | 59 => ⟨S131072, .f32⟩
  | 60 => ⟨S1x131072, .f32⟩
  | 61 => ⟨S32x131072, .f32⟩
  | 62 => ⟨S32x131072, .f32⟩
  | 63 => ⟨S_, .f32⟩
  | 64 => ⟨S131072, .f32⟩
  | 65 => ⟨S131072, .f32⟩
  | 66 => ⟨S1x131072, .f32⟩
  | 67 => ⟨S32x131072, .f32⟩
  | 68 => ⟨S32x131072, .f32⟩
  | 69 => ⟨S1x131072, .f32⟩
  | 70 => ⟨S32x131072, .f32⟩
  | 71 => ⟨S32x131072, .f32⟩
  | 72 => ⟨S_, .f32⟩
  | 73 => ⟨S131072, .f32⟩
  | 74 => ⟨S131072, .f32⟩
  | 75 => ⟨S1x131072, .f32⟩
  | 76 => ⟨S32x131072, .f32⟩
  | 77 => ⟨S32x131072, .f32⟩
  | 78 => ⟨S32x131072, .f32⟩
  | 79 => ⟨S_, .f32⟩
  | 80 => ⟨S131072, .f32⟩
  | 81 => ⟨S131072, .f32⟩
  | 82 => ⟨S1x131072, .f32⟩
  | 83 => ⟨S32x131072, .f32⟩
  | 84 => ⟨S32x131072, .f32⟩
  | 85 => ⟨S1x131072, .f32⟩
  | 86 => ⟨S32x131072, .f32⟩
  | 87 => ⟨S32x131072, .f32⟩
  | 88 => ⟨S32x131072, .f32⟩
  | 89 => ⟨S1x131072, .f32⟩
  | 90 => ⟨S32x131072, .f32⟩
  | 91 => ⟨S32x131072, .f32⟩
  | 92 => ⟨S1x131072, .f32⟩
  | 93 => ⟨S32x131072, .f32⟩
  | 94 => ⟨S32x131072, .f32⟩
  | 95 => ⟨S32x131072, .f32⟩
  | 96 => ⟨S131072x32, .f32⟩
  | 97 => ⟨S_, .i32⟩
  | 98 => ⟨S2, .i32⟩
  | 99 => ⟨S2, .i1⟩
  | 100 => ⟨S_, .i32⟩
  | 101 => ⟨S2, .i32⟩
  | 102 => ⟨S2, .i32⟩
  | 103 => ⟨S2, .i32⟩
  | 104 => ⟨S2x1, .i32⟩
  | 105 => ⟨S131072x2, .f32⟩
  | 106 => ⟨S131072x1, .f32⟩
  | 107 => ⟨S131072, .f32⟩
  | 108 => ⟨S_, .f32⟩
  | 109 => ⟨S131072, .f32⟩
  | 110 => ⟨S131072, .f32⟩
  | 111 => ⟨S_, .f32⟩
  | 112 => ⟨S131072, .f32⟩
  | 113 => ⟨S131072, .f32⟩
  | 114 => ⟨S_, .f32⟩
  | 115 => ⟨S131072, .f32⟩
  | 116 => ⟨S131072, .f32⟩
  | 117 => ⟨S131072x1, .f32⟩
  | 118 => ⟨S131072, .f32⟩
  | 119 => ⟨S_, .f32⟩
  | 120 => ⟨S131072, .f32⟩
  | 121 => ⟨S131072, .f32⟩
  | 122 => ⟨S_, .f32⟩
  | 123 => ⟨S131072, .f32⟩
  | 124 => ⟨S131072, .f32⟩
  | 125 => ⟨S_, .f32⟩
  | 126 => ⟨S131072, .f32⟩
  | 127 => ⟨S131072, .f32⟩
  | _ => ⟨S4096x32x3, .f32⟩

abbrev hbmTy0_11 (i : Nat) : BufTy := match i % 128 with
  | 0 => ⟨S131072, .f32⟩
  | 1 => ⟨S131072, .f32⟩
  | 2 => ⟨S131072, .f32⟩
  | 3 => ⟨S131072, .f32⟩
  | 4 => ⟨S131072, .i32⟩
  | 5 => ⟨S_, .i32⟩
  | 6 => ⟨S_, .i32⟩
  | 7 => ⟨S_, .i32⟩
  | 8 => ⟨S131072, .i32⟩
  | 9 => ⟨S131072, .i32⟩
  | 10 => ⟨S_, .i32⟩
  | 11 => ⟨S131072, .i32⟩
  | 12 => ⟨S131072, .i32⟩
  | 13 => ⟨S_, .i32⟩
  | 14 => ⟨S131072, .i32⟩
  | 15 => ⟨S131072, .i32⟩
  | 16 => ⟨S_, .i32⟩
  | 17 => ⟨S_, .i32⟩
  | 18 => ⟨S_, .i32⟩
  | 19 => ⟨S131072, .i32⟩
  | 20 => ⟨S131072, .i32⟩
  | 21 => ⟨S_, .i32⟩
  | 22 => ⟨S131072, .i32⟩
  | 23 => ⟨S131072, .i32⟩
  | 24 => ⟨S131072, .i32⟩
  | 25 => ⟨S_, .i32⟩
  | 26 => ⟨S_, .i32⟩
  | 27 => ⟨S_, .i32⟩
  | 28 => ⟨S131072, .i32⟩
  | 29 => ⟨S131072, .i32⟩
  | 30 => ⟨S_, .i32⟩
  | 31 => ⟨S131072, .i32⟩
  | 32 => ⟨S131072, .i32⟩
  | 33 => ⟨S_, .i32⟩
  | 34 => ⟨S131072, .i32⟩
  | 35 => ⟨S131072, .i32⟩
  | 36 => ⟨S_, .i32⟩
  | 37 => ⟨S_, .i32⟩
  | 38 => ⟨S_, .i32⟩
  | 39 => ⟨S131072, .i32⟩
  | 40 => ⟨S131072, .i32⟩
  | 41 => ⟨S_, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072x1, .i32⟩
  | 60 => ⟨S131072x2, .i32⟩
  | 61 => ⟨S32x131072, .f32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S131072x1, .i32⟩
  | 77 => ⟨S131072x1, .i32⟩
  | 78 => ⟨S131072x2, .i32⟩
  | 79 => ⟨S32x131072, .f32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S_, .i32⟩
  | 88 => ⟨S131072, .i32⟩
  | 89 => ⟨S131072, .i1⟩
  | 90 => ⟨S_, .i32⟩
  | 91 => ⟨S131072, .i32⟩
  | 92 => ⟨S131072, .i32⟩
  | 93 => ⟨S131072, .i32⟩
  | 94 => ⟨S131072x1, .i32⟩
  | 95 => ⟨S131072x1, .i32⟩
  | 96 => ⟨S131072x2, .i32⟩
  | 97 => ⟨S32x131072, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i32⟩
  | 111 => ⟨S131072, .i32⟩
  | 112 => ⟨S131072x1, .i32⟩
  | 113 => ⟨S131072x1, .i32⟩
  | 114 => ⟨S131072x2, .i32⟩
  | 115 => ⟨S32x131072, .f32⟩
  | 116 => ⟨S_, .f32⟩
  | 117 => ⟨S131072, .f32⟩
  | 118 => ⟨S131072, .f32⟩
  | 119 => ⟨S1x131072, .f32⟩
  | 120 => ⟨S32x131072, .f32⟩
  | 121 => ⟨S32x131072, .f32⟩
  | 122 => ⟨S_, .f32⟩
  | 123 => ⟨S131072, .f32⟩
  | 124 => ⟨S131072, .f32⟩
  | 125 => ⟨S1x131072, .f32⟩
  | 126 => ⟨S32x131072, .f32⟩
  | 127 => ⟨S32x131072, .f32⟩
  | _ => ⟨S4096x32x3, .f32⟩

abbrev hbmTy0_12 (i : Nat) : BufTy := match i % 128 with
  | 0 => ⟨S1x131072, .f32⟩
  | 1 => ⟨S32x131072, .f32⟩
  | 2 => ⟨S32x131072, .f32⟩
  | 3 => ⟨S_, .f32⟩
  | 4 => ⟨S131072, .f32⟩
  | 5 => ⟨S131072, .f32⟩
  | 6 => ⟨S1x131072, .f32⟩
  | 7 => ⟨S32x131072, .f32⟩
  | 8 => ⟨S32x131072, .f32⟩
  | 9 => ⟨S32x131072, .f32⟩
  | 10 => ⟨S_, .f32⟩
  | 11 => ⟨S131072, .f32⟩
  | 12 => ⟨S131072, .f32⟩
  | 13 => ⟨S1x131072, .f32⟩
  | 14 => ⟨S32x131072, .f32⟩
  | 15 => ⟨S32x131072, .f32⟩
  | 16 => ⟨S1x131072, .f32⟩
  | 17 => ⟨S32x131072, .f32⟩
  | 18 => ⟨S32x131072, .f32⟩
  | 19 => ⟨S32x131072, .f32⟩
  | 20 => ⟨S1x131072, .f32⟩
  | 21 => ⟨S32x131072, .f32⟩
  | 22 => ⟨S32x131072, .f32⟩
  | 23 => ⟨S1x131072, .f32⟩
  | 24 => ⟨S32x131072, .f32⟩
  | 25 => ⟨S32x131072, .f32⟩
  | 26 => ⟨S32x131072, .f32⟩
  | 27 => ⟨S131072x32, .f32⟩
  | 28 => ⟨S131072x32, .f32⟩
  | 29 => ⟨S_, .i32⟩
  | 30 => ⟨S2, .i32⟩
  | 31 => ⟨S2, .i1⟩
  | 32 => ⟨S_, .i32⟩
  | 33 => ⟨S2, .i32⟩
  | 34 => ⟨S2, .i32⟩
  | 35 => ⟨S2, .i32⟩
  | 36 => ⟨S2x1, .i32⟩
  | 37 => ⟨S131072x2, .f32⟩
  | 38 => ⟨S131072x1, .f32⟩
  | 39 => ⟨S131072, .f32⟩
  | 40 => ⟨S_, .f32⟩
  | 41 => ⟨S131072, .f32⟩
  | 42 => ⟨S131072, .f32⟩
  | 43 => ⟨S_, .f32⟩
  | 44 => ⟨S131072, .f32⟩
  | 45 => ⟨S131072, .f32⟩
  | 46 => ⟨S_, .f32⟩
  | 47 => ⟨S131072, .f32⟩
  | 48 => ⟨S131072, .f32⟩
  | 49 => ⟨S131072x1, .f32⟩
  | 50 => ⟨S131072, .f32⟩
  | 51 => ⟨S_, .f32⟩
  | 52 => ⟨S131072, .f32⟩
  | 53 => ⟨S131072, .f32⟩
  | 54 => ⟨S_, .f32⟩
  | 55 => ⟨S131072, .f32⟩
  | 56 => ⟨S131072, .f32⟩
  | 57 => ⟨S_, .f32⟩
  | 58 => ⟨S131072, .f32⟩
  | 59 => ⟨S131072, .f32⟩
  | 60 => ⟨S131072, .f32⟩
  | 61 => ⟨S131072, .f32⟩
  | 62 => ⟨S131072, .f32⟩
  | 63 => ⟨S131072, .f32⟩
  | 64 => ⟨S131072, .i32⟩
  | 65 => ⟨S_, .i32⟩
  | 66 => ⟨S_, .i32⟩
  | 67 => ⟨S_, .i32⟩
  | 68 => ⟨S131072, .i32⟩
  | 69 => ⟨S131072, .i32⟩
  | 70 => ⟨S_, .i32⟩
  | 71 => ⟨S131072, .i32⟩
  | 72 => ⟨S131072, .i32⟩
  | 73 => ⟨S_, .i32⟩
  | 74 => ⟨S131072, .i32⟩
  | 75 => ⟨S131072, .i32⟩
  | 76 => ⟨S_, .i32⟩
  | 77 => ⟨S_, .i32⟩
  | 78 => ⟨S_, .i32⟩
  | 79 => ⟨S131072, .i32⟩
  | 80 => ⟨S131072, .i32⟩
  | 81 => ⟨S_, .i32⟩
  | 82 => ⟨S131072, .i32⟩
  | 83 => ⟨S131072, .i32⟩
  | 84 => ⟨S131072, .i32⟩
  | 85 => ⟨S_, .i32⟩
  | 86 => ⟨S_, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i32⟩
  | 93 => ⟨S_, .i32⟩
  | 94 => ⟨S131072, .i32⟩
  | 95 => ⟨S131072, .i32⟩
  | 96 => ⟨S_, .i32⟩
  | 97 => ⟨S_, .i32⟩
  | 98 => ⟨S_, .i32⟩
  | 99 => ⟨S131072, .i32⟩
  | 100 => ⟨S131072, .i32⟩
  | 101 => ⟨S_, .i32⟩
  | 102 => ⟨S131072, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S_, .i32⟩
  | 112 => ⟨S131072, .i32⟩
  | 113 => ⟨S131072, .i1⟩
  | 114 => ⟨S_, .i32⟩
  | 115 => ⟨S131072, .i32⟩
  | 116 => ⟨S131072, .i32⟩
  | 117 => ⟨S131072, .i32⟩
  | 118 => ⟨S131072x1, .i32⟩
  | 119 => ⟨S131072x1, .i32⟩
  | 120 => ⟨S131072x2, .i32⟩
  | 121 => ⟨S32x131072, .f32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S4096x32x3, .f32⟩

abbrev hbmTy0_13 (i : Nat) : BufTy := match i % 128 with
  | 0 => ⟨S131072, .i32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x1, .i32⟩
  | 10 => ⟨S131072x2, .i32⟩
  | 11 => ⟨S32x131072, .f32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x1, .i32⟩
  | 28 => ⟨S131072x2, .i32⟩
  | 29 => ⟨S32x131072, .f32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S131072x1, .i32⟩
  | 46 => ⟨S131072x2, .i32⟩
  | 47 => ⟨S32x131072, .f32⟩
  | 48 => ⟨S_, .f32⟩
  | 49 => ⟨S131072, .f32⟩
  | 50 => ⟨S131072, .f32⟩
  | 51 => ⟨S1x131072, .f32⟩
  | 52 => ⟨S32x131072, .f32⟩
  | 53 => ⟨S32x131072, .f32⟩
  | 54 => ⟨S_, .f32⟩
  | 55 => ⟨S131072, .f32⟩
  | 56 => ⟨S131072, .f32⟩
  | 57 => ⟨S1x131072, .f32⟩
  | 58 => ⟨S32x131072, .f32⟩
  | 59 => ⟨S32x131072, .f32⟩
  | 60 => ⟨S1x131072, .f32⟩
  | 61 => ⟨S32x131072, .f32⟩
  | 62 => ⟨S32x131072, .f32⟩
  | 63 => ⟨S_, .f32⟩
  | 64 => ⟨S131072, .f32⟩
  | 65 => ⟨S131072, .f32⟩
  | 66 => ⟨S1x131072, .f32⟩
  | 67 => ⟨S32x131072, .f32⟩
  | 68 => ⟨S32x131072, .f32⟩
  | 69 => ⟨S32x131072, .f32⟩
  | 70 => ⟨S_, .f32⟩
  | 71 => ⟨S131072, .f32⟩
  | 72 => ⟨S131072, .f32⟩
  | 73 => ⟨S1x131072, .f32⟩
  | 74 => ⟨S32x131072, .f32⟩
  | 75 => ⟨S32x131072, .f32⟩
  | 76 => ⟨S1x131072, .f32⟩
  | 77 => ⟨S32x131072, .f32⟩
  | 78 => ⟨S32x131072, .f32⟩
  | 79 => ⟨S32x131072, .f32⟩
  | 80 => ⟨S1x131072, .f32⟩
  | 81 => ⟨S32x131072, .f32⟩
  | 82 => ⟨S32x131072, .f32⟩
  | 83 => ⟨S1x131072, .f32⟩
  | 84 => ⟨S32x131072, .f32⟩
  | 85 => ⟨S32x131072, .f32⟩
  | 86 => ⟨S32x131072, .f32⟩
  | 87 => ⟨S131072x32, .f32⟩
  | 88 => ⟨S131072x32, .f32⟩
  | 89 => ⟨S_, .i32⟩
  | 90 => ⟨S2, .i32⟩
  | 91 => ⟨S2, .i1⟩
  | 92 => ⟨S_, .i32⟩
  | 93 => ⟨S2, .i32⟩
  | 94 => ⟨S2, .i32⟩
  | 95 => ⟨S2, .i32⟩
  | 96 => ⟨S2x1, .i32⟩
  | 97 => ⟨S131072x2, .f32⟩
  | 98 => ⟨S131072x1, .f32⟩
  | 99 => ⟨S131072, .f32⟩
  | 100 => ⟨S_, .f32⟩
  | 101 => ⟨S131072, .f32⟩
  | 102 => ⟨S131072, .f32⟩
  | 103 => ⟨S_, .f32⟩
  | 104 => ⟨S131072, .f32⟩
  | 105 => ⟨S131072, .f32⟩
  | 106 => ⟨S_, .f32⟩
  | 107 => ⟨S131072, .f32⟩
  | 108 => ⟨S131072, .f32⟩
  | 109 => ⟨S131072x1, .f32⟩
  | 110 => ⟨S131072, .f32⟩
  | 111 => ⟨S_, .f32⟩
  | 112 => ⟨S131072, .f32⟩
  | 113 => ⟨S131072, .f32⟩
  | 114 => ⟨S_, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .f32⟩
  | 121 => ⟨S131072, .f32⟩
  | 122 => ⟨S131072, .f32⟩
  | 123 => ⟨S131072, .f32⟩
  | 124 => ⟨S131072, .i32⟩
  | 125 => ⟨S_, .i32⟩
  | 126 => ⟨S_, .i32⟩
  | 127 => ⟨S_, .i32⟩
  | _ => ⟨S4096x32x3, .f32⟩

abbrev hbmTy0_14 (i : Nat) : BufTy := match i % 128 with
  | 0 => ⟨S131072, .i32⟩
  | 1 => ⟨S131072, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S_, .i32⟩
  | 9 => ⟨S_, .i32⟩
  | 10 => ⟨S_, .i32⟩
  | 11 => ⟨S131072, .i32⟩
  | 12 => ⟨S131072, .i32⟩
  | 13 => ⟨S_, .i32⟩
  | 14 => ⟨S131072, .i32⟩
  | 15 => ⟨S131072, .i32⟩
  | 16 => ⟨S131072, .i32⟩
  | 17 => ⟨S_, .i32⟩
  | 18 => ⟨S_, .i32⟩
  | 19 => ⟨S_, .i32⟩
  | 20 => ⟨S131072, .i32⟩
  | 21 => ⟨S131072, .i32⟩
  | 22 => ⟨S_, .i32⟩
  | 23 => ⟨S131072, .i32⟩
  | 24 => ⟨S131072, .i32⟩
  | 25 => ⟨S_, .i32⟩
  | 26 => ⟨S131072, .i32⟩
  | 27 => ⟨S131072, .i32⟩
  | 28 => ⟨S_, .i32⟩
  | 29 => ⟨S_, .i32⟩
  | 30 => ⟨S_, .i32⟩
  | 31 => ⟨S131072, .i32⟩
  | 32 => ⟨S131072, .i32⟩
  | 33 => ⟨S_, .i32⟩
  | 34 => ⟨S131072, .i32⟩
  | 35 => ⟨S131072, .i32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x1, .i32⟩
  | 52 => ⟨S131072x2, .i32⟩
  | 53 => ⟨S32x131072, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x1, .i32⟩
  | 70 => ⟨S131072x2, .i32⟩
  | 71 => ⟨S32x131072, .f32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S131072x1, .i32⟩
  | 88 => ⟨S131072x2, .i32⟩
  | 89 => ⟨S32x131072, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x1, .i32⟩
  | 106 => ⟨S131072x2, .i32⟩
  | 107 => ⟨S32x131072, .f32⟩
  | 108 => ⟨S_, .f32⟩
  | 109 => ⟨S131072, .f32⟩
  | 110 => ⟨S131072, .f32⟩
  | 111 => ⟨S1x131072, .f32⟩
  | 112 => ⟨S32x131072, .f32⟩
  | 113 => ⟨S32x131072, .f32⟩
  | 114 => ⟨S_, .f32⟩
  | 115 => ⟨S131072, .f32⟩
  | 116 => ⟨S131072, .f32⟩
  | 117 => ⟨S1x131072, .f32⟩
  | 118 => ⟨S32x131072, .f32⟩
  | 119 => ⟨S32x131072, .f32⟩
  | 120 => ⟨S1x131072, .f32⟩
  | 121 => ⟨S32x131072, .f32⟩
  | 122 => ⟨S32x131072, .f32⟩
  | 123 => ⟨S_, .f32⟩
  | 124 => ⟨S131072, .f32⟩
  | 125 => ⟨S131072, .f32⟩
  | 126 => ⟨S1x131072, .f32⟩
  | 127 => ⟨S32x131072, .f32⟩
  | _ => ⟨S4096x32x3, .f32⟩

abbrev hbmTy0_15 (i : Nat) : BufTy := match i % 128 with
  | 0 => ⟨S32x131072, .f32⟩
  | 1 => ⟨S32x131072, .f32⟩
  | 2 => ⟨S_, .f32⟩
  | 3 => ⟨S131072, .f32⟩
  | 4 => ⟨S131072, .f32⟩
  | 5 => ⟨S1x131072, .f32⟩
  | 6 => ⟨S32x131072, .f32⟩
  | 7 => ⟨S32x131072, .f32⟩
  | 8 => ⟨S1x131072, .f32⟩
  | 9 => ⟨S32x131072, .f32⟩
  | 10 => ⟨S32x131072, .f32⟩
  | 11 => ⟨S32x131072, .f32⟩
  | 12 => ⟨S1x131072, .f32⟩
  | 13 => ⟨S32x131072, .f32⟩
  | 14 => ⟨S32x131072, .f32⟩
  | 15 => ⟨S1x131072, .f32⟩
  | 16 => ⟨S32x131072, .f32⟩
  | 17 => ⟨S32x131072, .f32⟩
  | 18 => ⟨S32x131072, .f32⟩
  | 19 => ⟨S131072x32, .f32⟩
  | 20 => ⟨S131072x32, .f32⟩
  | 21 => ⟨S_, .i32⟩
  | 22 => ⟨S2, .i32⟩
  | 23 => ⟨S2, .i1⟩
  | 24 => ⟨S_, .i32⟩
  | 25 => ⟨S2, .i32⟩
  | 26 => ⟨S2, .i32⟩
  | 27 => ⟨S2, .i32⟩
  | 28 => ⟨S2x1, .i32⟩
  | 29 => ⟨S131072x2, .f32⟩
  | 30 => ⟨S131072x1, .f32⟩
  | 31 => ⟨S131072, .f32⟩
  | 32 => ⟨S_, .f32⟩
  | 33 => ⟨S131072, .f32⟩
  | 34 => ⟨S131072, .f32⟩
  | 35 => ⟨S_, .f32⟩
  | 36 => ⟨S131072, .f32⟩
  | 37 => ⟨S131072, .f32⟩
  | 38 => ⟨S_, .f32⟩
  | 39 => ⟨S131072, .f32⟩
  | 40 => ⟨S131072, .f32⟩
  | 41 => ⟨S131072x1, .f32⟩
  | 42 => ⟨S131072, .f32⟩
  | 43 => ⟨S_, .f32⟩
  | 44 => ⟨S131072, .f32⟩
  | 45 => ⟨S131072, .f32⟩
  | 46 => ⟨S_, .f32⟩
  | 47 => ⟨S131072, .f32⟩
  | 48 => ⟨S131072, .f32⟩
  | 49 => ⟨S_, .f32⟩
  | 50 => ⟨S131072, .f32⟩
  | 51 => ⟨S131072, .f32⟩
  | 52 => ⟨S131072, .f32⟩
  | 53 => ⟨S131072, .f32⟩
  | 54 => ⟨S131072, .f32⟩
  | 55 => ⟨S131072, .f32⟩
  | 56 => ⟨S131072, .i32⟩
  | 57 => ⟨S_, .i32⟩
  | 58 => ⟨S_, .i32⟩
  | 59 => ⟨S_, .i32⟩
  | 60 => ⟨S131072, .i32⟩
  | 61 => ⟨S131072, .i32⟩
  | 62 => ⟨S_, .i32⟩
  | 63 => ⟨S131072, .i32⟩
  | 64 => ⟨S131072, .i32⟩
  | 65 => ⟨S_, .i32⟩
  | 66 => ⟨S131072, .i32⟩
  | 67 => ⟨S131072, .i32⟩
  | 68 => ⟨S_, .i32⟩
  | 69 => ⟨S_, .i32⟩
  | 70 => ⟨S_, .i32⟩
  | 71 => ⟨S131072, .i32⟩
  | 72 => ⟨S131072, .i32⟩
  | 73 => ⟨S_, .i32⟩
  | 74 => ⟨S131072, .i32⟩
  | 75 => ⟨S131072, .i32⟩
  | 76 => ⟨S131072, .i32⟩
  | 77 => ⟨S_, .i32⟩
  | 78 => ⟨S_, .i32⟩
  | 79 => ⟨S_, .i32⟩
  | 80 => ⟨S131072, .i32⟩
  | 81 => ⟨S131072, .i32⟩
  | 82 => ⟨S_, .i32⟩
  | 83 => ⟨S131072, .i32⟩
  | 84 => ⟨S131072, .i32⟩
  | 85 => ⟨S_, .i32⟩
  | 86 => ⟨S131072, .i32⟩
  | 87 => ⟨S131072, .i32⟩
  | 88 => ⟨S_, .i32⟩
  | 89 => ⟨S_, .i32⟩
  | 90 => ⟨S_, .i32⟩
  | 91 => ⟨S131072, .i32⟩
  | 92 => ⟨S131072, .i32⟩
  | 93 => ⟨S_, .i32⟩
  | 94 => ⟨S131072, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x1, .i32⟩
  | 112 => ⟨S131072x2, .i32⟩
  | 113 => ⟨S32x131072, .f32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S4096x32x3, .f32⟩

abbrev hbmTy0_16 (i : Nat) : BufTy := match i % 128 with
  | 0 => ⟨S131072x1, .i32⟩
  | 1 => ⟨S131072x1, .i32⟩
  | 2 => ⟨S131072x2, .i32⟩
  | 3 => ⟨S32x131072, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S131072x1, .i32⟩
  | 20 => ⟨S131072x2, .i32⟩
  | 21 => ⟨S32x131072, .f32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x1, .i32⟩
  | 38 => ⟨S131072x2, .i32⟩
  | 39 => ⟨S32x131072, .f32⟩
  | 40 => ⟨S_, .f32⟩
  | 41 => ⟨S131072, .f32⟩
  | 42 => ⟨S131072, .f32⟩
  | 43 => ⟨S1x131072, .f32⟩
  | 44 => ⟨S32x131072, .f32⟩
  | 45 => ⟨S32x131072, .f32⟩
  | 46 => ⟨S_, .f32⟩
  | 47 => ⟨S131072, .f32⟩
  | 48 => ⟨S131072, .f32⟩
  | 49 => ⟨S1x131072, .f32⟩
  | 50 => ⟨S32x131072, .f32⟩
  | 51 => ⟨S32x131072, .f32⟩
  | 52 => ⟨S1x131072, .f32⟩
  | 53 => ⟨S32x131072, .f32⟩
  | 54 => ⟨S32x131072, .f32⟩
  | 55 => ⟨S_, .f32⟩
  | 56 => ⟨S131072, .f32⟩
  | 57 => ⟨S131072, .f32⟩
  | 58 => ⟨S1x131072, .f32⟩
  | 59 => ⟨S32x131072, .f32⟩
  | 60 => ⟨S32x131072, .f32⟩
  | 61 => ⟨S32x131072, .f32⟩
  | 62 => ⟨S_, .f32⟩
  | 63 => ⟨S131072, .f32⟩
  | 64 => ⟨S131072, .f32⟩
  | 65 => ⟨S1x131072, .f32⟩
  | 66 => ⟨S32x131072, .f32⟩
  | 67 => ⟨S32x131072, .f32⟩
  | 68 => ⟨S1x131072, .f32⟩
  | 69 => ⟨S32x131072, .f32⟩
  | 70 => ⟨S32x131072, .f32⟩
  | 71 => ⟨S32x131072, .f32⟩
  | 72 => ⟨S1x131072, .f32⟩
  | 73 => ⟨S32x131072, .f32⟩
  | 74 => ⟨S32x131072, .f32⟩
  | 75 => ⟨S1x131072, .f32⟩
  | 76 => ⟨S32x131072, .f32⟩
  | 77 => ⟨S32x131072, .f32⟩
  | 78 => ⟨S32x131072, .f32⟩
  | 79 => ⟨S131072x32, .f32⟩
  | 80 => ⟨S131072x32, .f32⟩
  | 81 => ⟨S_, .i32⟩
  | 82 => ⟨S2, .i32⟩
  | 83 => ⟨S2, .i1⟩
  | 84 => ⟨S_, .i32⟩
  | 85 => ⟨S2, .i32⟩
  | 86 => ⟨S2, .i32⟩
  | 87 => ⟨S2, .i32⟩
  | 88 => ⟨S2x1, .i32⟩
  | 89 => ⟨S131072x2, .f32⟩
  | 90 => ⟨S131072x1, .f32⟩
  | 91 => ⟨S131072, .f32⟩
  | 92 => ⟨S_, .f32⟩
  | 93 => ⟨S131072, .f32⟩
  | 94 => ⟨S131072, .f32⟩
  | 95 => ⟨S_, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072x1, .f32⟩
  | 102 => ⟨S131072, .f32⟩
  | 103 => ⟨S_, .f32⟩
  | 104 => ⟨S131072, .f32⟩
  | 105 => ⟨S131072, .f32⟩
  | 106 => ⟨S_, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072, .f32⟩
  | 113 => ⟨S131072, .f32⟩
  | 114 => ⟨S131072, .f32⟩
  | 115 => ⟨S131072, .f32⟩
  | 116 => ⟨S131072, .i32⟩
  | 117 => ⟨S_, .i32⟩
  | 118 => ⟨S_, .i32⟩
  | 119 => ⟨S_, .i32⟩
  | 120 => ⟨S131072, .i32⟩
  | 121 => ⟨S131072, .i32⟩
  | 122 => ⟨S_, .i32⟩
  | 123 => ⟨S131072, .i32⟩
  | 124 => ⟨S131072, .i32⟩
  | 125 => ⟨S_, .i32⟩
  | 126 => ⟨S131072, .i32⟩
  | 127 => ⟨S131072, .i32⟩
  | _ => ⟨S4096x32x3, .f32⟩

abbrev hbmTy0_17 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S131072, .i32⟩
  | 9 => ⟨S_, .i32⟩
  | 10 => ⟨S_, .i32⟩
  | 11 => ⟨S_, .i32⟩
  | 12 => ⟨S131072, .i32⟩
  | 13 => ⟨S131072, .i32⟩
  | 14 => ⟨S_, .i32⟩
  | 15 => ⟨S131072, .i32⟩
  | 16 => ⟨S131072, .i32⟩
  | 17 => ⟨S_, .i32⟩
  | 18 => ⟨S131072, .i32⟩
  | 19 => ⟨S131072, .i32⟩
  | 20 => ⟨S_, .i32⟩
  | 21 => ⟨S_, .i32⟩
  | 22 => ⟨S_, .i32⟩
  | 23 => ⟨S131072, .i32⟩
  | 24 => ⟨S131072, .i32⟩
  | 25 => ⟨S_, .i32⟩
  | 26 => ⟨S131072, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x1, .i32⟩
  | 44 => ⟨S131072x2, .i32⟩
  | 45 => ⟨S32x131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x1, .i32⟩
  | 62 => ⟨S131072x2, .i32⟩
  | 63 => ⟨S32x131072, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S32x131072, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x1, .i32⟩
  | 98 => ⟨S131072x2, .i32⟩
  | 99 => ⟨S32x131072, .f32⟩
  | 100 => ⟨S_, .f32⟩
  | 101 => ⟨S131072, .f32⟩
  | 102 => ⟨S131072, .f32⟩
  | 103 => ⟨S1x131072, .f32⟩
  | 104 => ⟨S32x131072, .f32⟩
  | 105 => ⟨S32x131072, .f32⟩
  | 106 => ⟨S_, .f32⟩
  | 107 => ⟨S131072, .f32⟩
  | 108 => ⟨S131072, .f32⟩
  | 109 => ⟨S1x131072, .f32⟩
  | 110 => ⟨S32x131072, .f32⟩
  | 111 => ⟨S32x131072, .f32⟩
  | 112 => ⟨S1x131072, .f32⟩
  | 113 => ⟨S32x131072, .f32⟩
  | 114 => ⟨S32x131072, .f32⟩
  | 115 => ⟨S_, .f32⟩
  | 116 => ⟨S131072, .f32⟩
  | 117 => ⟨S131072, .f32⟩
  | 118 => ⟨S1x131072, .f32⟩
  | 119 => ⟨S32x131072, .f32⟩
  | 120 => ⟨S32x131072, .f32⟩
  | 121 => ⟨S32x131072, .f32⟩
  | 122 => ⟨S_, .f32⟩
  | 123 => ⟨S131072, .f32⟩
  | 124 => ⟨S131072, .f32⟩
  | 125 => ⟨S1x131072, .f32⟩
  | 126 => ⟨S32x131072, .f32⟩
  | 127 => ⟨S32x131072, .f32⟩
  | _ => ⟨S4096x32x3, .f32⟩

abbrev hbmTy0_18 (i : Nat) : BufTy := match i % 128 with
  | 0 => ⟨S1x131072, .f32⟩
  | 1 => ⟨S32x131072, .f32⟩
  | 2 => ⟨S32x131072, .f32⟩
  | 3 => ⟨S32x131072, .f32⟩
  | 4 => ⟨S1x131072, .f32⟩
  | 5 => ⟨S32x131072, .f32⟩
  | 6 => ⟨S32x131072, .f32⟩
  | 7 => ⟨S1x131072, .f32⟩
  | 8 => ⟨S32x131072, .f32⟩
  | 9 => ⟨S32x131072, .f32⟩
  | 10 => ⟨S32x131072, .f32⟩
  | 11 => ⟨S131072x32, .f32⟩
  | 12 => ⟨S131072x32, .f32⟩
  | 13 => ⟨S_, .i32⟩
  | 14 => ⟨S2, .i32⟩
  | 15 => ⟨S2, .i1⟩
  | 16 => ⟨S_, .i32⟩
  | 17 => ⟨S2, .i32⟩
  | 18 => ⟨S2, .i32⟩
  | 19 => ⟨S2, .i32⟩
  | 20 => ⟨S2x1, .i32⟩
  | 21 => ⟨S131072x2, .f32⟩
  | 22 => ⟨S131072x1, .f32⟩
  | 23 => ⟨S131072, .f32⟩
  | 24 => ⟨S_, .f32⟩
  | 25 => ⟨S131072, .f32⟩
  | 26 => ⟨S131072, .f32⟩
  | 27 => ⟨S_, .f32⟩
  | 28 => ⟨S131072, .f32⟩
  | 29 => ⟨S131072, .f32⟩
  | 30 => ⟨S_, .f32⟩
  | 31 => ⟨S131072, .f32⟩
  | 32 => ⟨S131072, .f32⟩
  | 33 => ⟨S131072x1, .f32⟩
  | 34 => ⟨S131072, .f32⟩
  | 35 => ⟨S_, .f32⟩
  | 36 => ⟨S131072, .f32⟩
  | 37 => ⟨S131072, .f32⟩
  | 38 => ⟨S_, .f32⟩
  | 39 => ⟨S131072, .f32⟩
  | 40 => ⟨S131072, .f32⟩
  | 41 => ⟨S_, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072, .f32⟩
  | 48 => ⟨S131072, .i32⟩
  | 49 => ⟨S_, .i32⟩
  | 50 => ⟨S_, .i32⟩
  | 51 => ⟨S_, .i32⟩
  | 52 => ⟨S131072, .i32⟩
  | 53 => ⟨S131072, .i32⟩
  | 54 => ⟨S_, .i32⟩
  | 55 => ⟨S131072, .i32⟩
  | 56 => ⟨S131072, .i32⟩
  | 57 => ⟨S_, .i32⟩
  | 58 => ⟨S131072, .i32⟩
  | 59 => ⟨S131072, .i32⟩
  | 60 => ⟨S_, .i32⟩
  | 61 => ⟨S_, .i32⟩
  | 62 => ⟨S_, .i32⟩
  | 63 => ⟨S131072, .i32⟩
  | 64 => ⟨S131072, .i32⟩
  | 65 => ⟨S_, .i32⟩
  | 66 => ⟨S131072, .i32⟩
  | 67 => ⟨S131072, .i32⟩
  | 68 => ⟨S131072, .i32⟩
  | 69 => ⟨S_, .i32⟩
  | 70 => ⟨S_, .i32⟩
  | 71 => ⟨S_, .i32⟩
  | 72 => ⟨S131072, .i32⟩
  | 73 => ⟨S131072, .i32⟩
  | 74 => ⟨S_, .i32⟩
  | 75 => ⟨S131072, .i32⟩
  | 76 => ⟨S131072, .i32⟩
  | 77 => ⟨S_, .i32⟩
  | 78 => ⟨S131072, .i32⟩
  | 79 => ⟨S131072, .i32⟩
  | 80 => ⟨S_, .i32⟩
  | 81 => ⟨S_, .i32⟩
  | 82 => ⟨S_, .i32⟩
  | 83 => ⟨S131072, .i32⟩
  | 84 => ⟨S131072, .i32⟩
  | 85 => ⟨S_, .i32⟩
  | 86 => ⟨S131072, .i32⟩
  | 87 => ⟨S131072, .i32⟩
  | 88 => ⟨S_, .i32⟩
  | 89 => ⟨S131072, .i32⟩
  | 90 => ⟨S131072, .i1⟩
  | 91 => ⟨S_, .i32⟩
  | 92 => ⟨S131072, .i32⟩
  | 93 => ⟨S131072, .i32⟩
  | 94 => ⟨S131072, .i32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S131072x1, .i32⟩
  | 103 => ⟨S131072x1, .i32⟩
  | 104 => ⟨S131072x2, .i32⟩
  | 105 => ⟨S32x131072, .f32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x1, .i32⟩
  | 122 => ⟨S131072x2, .i32⟩
  | 123 => ⟨S32x131072, .f32⟩
  | 124 => ⟨S_, .i32⟩
  | 125 => ⟨S131072, .i32⟩
  | 126 => ⟨S131072, .i1⟩
  | 127 => ⟨S_, .i32⟩
  | _ => ⟨S4096x32x3, .f32⟩

abbrev hbmTy0_19 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x1, .i32⟩
  | 12 => ⟨S131072x2, .i32⟩
  | 13 => ⟨S32x131072, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S131072x1, .i32⟩
  | 30 => ⟨S131072x2, .i32⟩
  | 31 => ⟨S32x131072, .f32⟩
  | 32 => ⟨S_, .f32⟩
  | 33 => ⟨S131072, .f32⟩
  | 34 => ⟨S131072, .f32⟩
  | 35 => ⟨S1x131072, .f32⟩
  | 36 => ⟨S32x131072, .f32⟩
  | 37 => ⟨S32x131072, .f32⟩
  | 38 => ⟨S_, .f32⟩
  | 39 => ⟨S131072, .f32⟩
  | 40 => ⟨S131072, .f32⟩
  | 41 => ⟨S1x131072, .f32⟩
  | 42 => ⟨S32x131072, .f32⟩
  | 43 => ⟨S32x131072, .f32⟩
  | 44 => ⟨S1x131072, .f32⟩
  | 45 => ⟨S32x131072, .f32⟩
  | 46 => ⟨S32x131072, .f32⟩
  | 47 => ⟨S_, .f32⟩
  | 48 => ⟨S131072, .f32⟩
  | 49 => ⟨S131072, .f32⟩
  | 50 => ⟨S1x131072, .f32⟩
  | 51 => ⟨S32x131072, .f32⟩
  | 52 => ⟨S32x131072, .f32⟩
  | 53 => ⟨S32x131072, .f32⟩
  | 54 => ⟨S_, .f32⟩
  | 55 => ⟨S131072, .f32⟩
  | 56 => ⟨S131072, .f32⟩
  | 57 => ⟨S1x131072, .f32⟩
  | 58 => ⟨S32x131072, .f32⟩
  | 59 => ⟨S32x131072, .f32⟩
  | 60 => ⟨S1x131072, .f32⟩
  | 61 => ⟨S32x131072, .f32⟩
  | 62 => ⟨S32x131072, .f32⟩
  | 63 => ⟨S32x131072, .f32⟩
  | 64 => ⟨S1x131072, .f32⟩
  | 65 => ⟨S32x131072, .f32⟩
  | 66 => ⟨S32x131072, .f32⟩
  | 67 => ⟨S1x131072, .f32⟩
  | 68 => ⟨S32x131072, .f32⟩
  | 69 => ⟨S32x131072, .f32⟩
  | 70 => ⟨S32x131072, .f32⟩
  | 71 => ⟨S131072x32, .f32⟩
  | 72 => ⟨S_, .i32⟩
  | 73 => ⟨S2, .i32⟩
  | 74 => ⟨S2, .i1⟩
  | 75 => ⟨S_, .i32⟩
  | 76 => ⟨S2, .i32⟩
  | 77 => ⟨S2, .i32⟩
  | 78 => ⟨S2, .i32⟩
  | 79 => ⟨S2x1, .i32⟩
  | 80 => ⟨S131072x2, .f32⟩
  | 81 => ⟨S131072x1, .f32⟩
  | 82 => ⟨S131072, .f32⟩
  | 83 => ⟨S_, .f32⟩
  | 84 => ⟨S131072, .f32⟩
  | 85 => ⟨S131072, .f32⟩
  | 86 => ⟨S_, .f32⟩
  | 87 => ⟨S131072, .f32⟩
  | 88 => ⟨S131072, .f32⟩
  | 89 => ⟨S_, .f32⟩
  | 90 => ⟨S131072, .f32⟩
  | 91 => ⟨S131072, .f32⟩
  | 92 => ⟨S131072x1, .f32⟩
  | 93 => ⟨S131072, .f32⟩
  | 94 => ⟨S_, .f32⟩
  | 95 => ⟨S131072, .f32⟩
  | 96 => ⟨S131072, .f32⟩
  | 97 => ⟨S_, .f32⟩
  | 98 => ⟨S131072, .f32⟩
  | 99 => ⟨S131072, .f32⟩
  | 100 => ⟨S_, .f32⟩
  | 101 => ⟨S131072, .f32⟩
  | 102 => ⟨S131072, .f32⟩
  | 103 => ⟨S131072, .f32⟩
  | 104 => ⟨S131072, .f32⟩
  | 105 => ⟨S131072, .f32⟩
  | 106 => ⟨S131072, .f32⟩
  | 107 => ⟨S131072, .i32⟩
  | 108 => ⟨S_, .i32⟩
  | 109 => ⟨S_, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S131072, .i32⟩
  | 118 => ⟨S131072, .i32⟩
  | 119 => ⟨S_, .i32⟩
  | 120 => ⟨S_, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i32⟩
  | 127 => ⟨S131072, .i32⟩
  | _ => ⟨S4096x32x3, .f32⟩

abbrev hbmTy0_20 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S_, .i32⟩
  | 12 => ⟨S_, .i32⟩
  | 13 => ⟨S_, .i32⟩
  | 14 => ⟨S131072, .i32⟩
  | 15 => ⟨S131072, .i32⟩
  | 16 => ⟨S_, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072x1, .i32⟩
  | 35 => ⟨S131072x2, .i32⟩
  | 36 => ⟨S32x131072, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072x1, .i32⟩
  | 53 => ⟨S131072x2, .i32⟩
  | 54 => ⟨S32x131072, .f32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x1, .i32⟩
  | 71 => ⟨S131072x2, .i32⟩
  | 72 => ⟨S32x131072, .f32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x1, .i32⟩
  | 89 => ⟨S131072x2, .i32⟩
  | 90 => ⟨S32x131072, .f32⟩
  | 91 => ⟨S_, .f32⟩
  | 92 => ⟨S131072, .f32⟩
  | 93 => ⟨S131072, .f32⟩
  | 94 => ⟨S1x131072, .f32⟩
  | 95 => ⟨S32x131072, .f32⟩
  | 96 => ⟨S32x131072, .f32⟩
  | 97 => ⟨S_, .f32⟩
  | 98 => ⟨S131072, .f32⟩
  | 99 => ⟨S131072, .f32⟩
  | 100 => ⟨S1x131072, .f32⟩
  | 101 => ⟨S32x131072, .f32⟩
  | 102 => ⟨S32x131072, .f32⟩
  | 103 => ⟨S1x131072, .f32⟩
  | 104 => ⟨S32x131072, .f32⟩
  | 105 => ⟨S32x131072, .f32⟩
  | 106 => ⟨S_, .f32⟩
  | 107 => ⟨S131072, .f32⟩
  | 108 => ⟨S131072, .f32⟩
  | 109 => ⟨S1x131072, .f32⟩
  | 110 => ⟨S32x131072, .f32⟩
  | 111 => ⟨S32x131072, .f32⟩
  | 112 => ⟨S32x131072, .f32⟩
  | 113 => ⟨S_, .f32⟩
  | 114 => ⟨S131072, .f32⟩
  | 115 => ⟨S131072, .f32⟩
  | 116 => ⟨S1x131072, .f32⟩
  | 117 => ⟨S32x131072, .f32⟩
  | 118 => ⟨S32x131072, .f32⟩
  | 119 => ⟨S1x131072, .f32⟩
  | 120 => ⟨S32x131072, .f32⟩
  | 121 => ⟨S32x131072, .f32⟩
  | 122 => ⟨S32x131072, .f32⟩
  | 123 => ⟨S1x131072, .f32⟩
  | 124 => ⟨S32x131072, .f32⟩
  | 125 => ⟨S32x131072, .f32⟩
  | 126 => ⟨S1x131072, .f32⟩
  | 127 => ⟨S32x131072, .f32⟩
  | _ => ⟨S4096x32x3, .f32⟩

abbrev hbmTy0_21 (i : Nat) : BufTy := match i % 128 with
  | 0 => ⟨S32x131072, .f32⟩
  | 1 => ⟨S32x131072, .f32⟩
  | 2 => ⟨S131072x32, .f32⟩
  | 3 => ⟨S131072x32, .f32⟩
  | 4 => ⟨S_, .i32⟩
  | 5 => ⟨S2, .i32⟩
  | 6 => ⟨S2, .i1⟩
  | 7 => ⟨S_, .i32⟩
  | 8 => ⟨S2, .i32⟩
  | 9 => ⟨S2, .i32⟩
  | 10 => ⟨S2, .i32⟩
  | 11 => ⟨S2x1, .i32⟩
  | 12 => ⟨S131072x2, .f32⟩
  | 13 => ⟨S131072x1, .f32⟩
  | 14 => ⟨S131072, .f32⟩
  | 15 => ⟨S_, .f32⟩
  | 16 => ⟨S131072, .f32⟩
  | 17 => ⟨S131072, .f32⟩
  | 18 => ⟨S_, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072x1, .f32⟩
  | 25 => ⟨S131072, .f32⟩
  | 26 => ⟨S_, .f32⟩
  | 27 => ⟨S131072, .f32⟩
  | 28 => ⟨S131072, .f32⟩
  | 29 => ⟨S_, .f32⟩
  | 30 => ⟨S131072, .f32⟩
  | 31 => ⟨S131072, .f32⟩
  | 32 => ⟨S_, .f32⟩
  | 33 => ⟨S131072, .f32⟩
  | 34 => ⟨S131072, .f32⟩
  | 35 => ⟨S131072, .f32⟩
  | 36 => ⟨S131072, .f32⟩
  | 37 => ⟨S131072, .f32⟩
  | 38 => ⟨S131072, .f32⟩
  | 39 => ⟨S131072, .i32⟩
  | 40 => ⟨S_, .i32⟩
  | 41 => ⟨S_, .i32⟩
  | 42 => ⟨S_, .i32⟩
  | 43 => ⟨S131072, .i32⟩
  | 44 => ⟨S131072, .i32⟩
  | 45 => ⟨S_, .i32⟩
  | 46 => ⟨S131072, .i32⟩
  | 47 => ⟨S131072, .i32⟩
  | 48 => ⟨S_, .i32⟩
  | 49 => ⟨S131072, .i32⟩
  | 50 => ⟨S131072, .i32⟩
  | 51 => ⟨S_, .i32⟩
  | 52 => ⟨S_, .i32⟩
  | 53 => ⟨S_, .i32⟩
  | 54 => ⟨S131072, .i32⟩
  | 55 => ⟨S131072, .i32⟩
  | 56 => ⟨S_, .i32⟩
  | 57 => ⟨S131072, .i32⟩
  | 58 => ⟨S131072, .i32⟩
  | 59 => ⟨S131072, .i32⟩
  | 60 => ⟨S_, .i32⟩
  | 61 => ⟨S_, .i32⟩
  | 62 => ⟨S_, .i32⟩
  | 63 => ⟨S131072, .i32⟩
  | 64 => ⟨S131072, .i32⟩
  | 65 => ⟨S_, .i32⟩
  | 66 => ⟨S131072, .i32⟩
  | 67 => ⟨S131072, .i32⟩
  | 68 => ⟨S_, .i32⟩
  | 69 => ⟨S131072, .i32⟩
  | 70 => ⟨S131072, .i32⟩
  | 71 => ⟨S_, .i32⟩
  | 72 => ⟨S_, .i32⟩
  | 73 => ⟨S_, .i32⟩
  | 74 => ⟨S131072, .i32⟩
  | 75 => ⟨S131072, .i32⟩
  | 76 => ⟨S_, .i32⟩
  | 77 => ⟨S131072, .i32⟩
  | 78 => ⟨S131072, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S131072x1, .i32⟩
  | 94 => ⟨S131072x1, .i32⟩
  | 95 => ⟨S131072x2, .i32⟩
  | 96 => ⟨S32x131072, .f32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072x1, .i32⟩
  | 113 => ⟨S131072x2, .i32⟩
  | 114 => ⟨S32x131072, .f32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S4096x32x3, .f32⟩

abbrev hbmTy0_22 (i : Nat) : BufTy := match i % 128 with
  | 0 => ⟨S131072, .i32⟩
  | 1 => ⟨S131072x1, .i32⟩
  | 2 => ⟨S131072x1, .i32⟩
  | 3 => ⟨S131072x2, .i32⟩
  | 4 => ⟨S32x131072, .f32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S131072x1, .i32⟩
  | 20 => ⟨S131072x1, .i32⟩
  | 21 => ⟨S131072x2, .i32⟩
  | 22 => ⟨S32x131072, .f32⟩
  | 23 => ⟨S_, .f32⟩
  | 24 => ⟨S131072, .f32⟩
  | 25 => ⟨S131072, .f32⟩
  | 26 => ⟨S1x131072, .f32⟩
  | 27 => ⟨S32x131072, .f32⟩
  | 28 => ⟨S32x131072, .f32⟩
  | 29 => ⟨S_, .f32⟩
  | 30 => ⟨S131072, .f32⟩
  | 31 => ⟨S131072, .f32⟩
  | 32 => ⟨S1x131072, .f32⟩
  | 33 => ⟨S32x131072, .f32⟩
  | 34 => ⟨S32x131072, .f32⟩
  | 35 => ⟨S1x131072, .f32⟩
  | 36 => ⟨S32x131072, .f32⟩
  | 37 => ⟨S32x131072, .f32⟩
  | 38 => ⟨S_, .f32⟩
  | 39 => ⟨S131072, .f32⟩
  | 40 => ⟨S131072, .f32⟩
  | 41 => ⟨S1x131072, .f32⟩
  | 42 => ⟨S32x131072, .f32⟩
  | 43 => ⟨S32x131072, .f32⟩
  | 44 => ⟨S32x131072, .f32⟩
  | 45 => ⟨S_, .f32⟩
  | 46 => ⟨S131072, .f32⟩
  | 47 => ⟨S131072, .f32⟩
  | 48 => ⟨S1x131072, .f32⟩
  | 49 => ⟨S32x131072, .f32⟩
  | 50 => ⟨S32x131072, .f32⟩
  | 51 => ⟨S1x131072, .f32⟩
  | 52 => ⟨S32x131072, .f32⟩
  | 53 => ⟨S32x131072, .f32⟩
  | 54 => ⟨S32x131072, .f32⟩
  | 55 => ⟨S1x131072, .f32⟩
  | 56 => ⟨S32x131072, .f32⟩
  | 57 => ⟨S32x131072, .f32⟩
  | 58 => ⟨S1x131072, .f32⟩
  | 59 => ⟨S32x131072, .f32⟩
  | 60 => ⟨S32x131072, .f32⟩
  | 61 => ⟨S32x131072, .f32⟩
  | 62 => ⟨S131072x32, .f32⟩
  | 63 => ⟨S131072x32, .f32⟩
  | 64 => ⟨S_, .i32⟩
  | 65 => ⟨S2, .i32⟩
  | 66 => ⟨S2, .i1⟩
  | 67 => ⟨S_, .i32⟩
  | 68 => ⟨S2, .i32⟩
  | 69 => ⟨S2, .i32⟩
  | 70 => ⟨S2, .i32⟩
  | 71 => ⟨S2x1, .i32⟩
  | 72 => ⟨S131072x2, .f32⟩
  | 73 => ⟨S131072x1, .f32⟩
  | 74 => ⟨S131072, .f32⟩
  | 75 => ⟨S_, .f32⟩
  | 76 => ⟨S131072, .f32⟩
  | 77 => ⟨S131072, .f32⟩
  | 78 => ⟨S_, .f32⟩
  | 79 => ⟨S131072, .f32⟩
  | 80 => ⟨S131072, .f32⟩
  | 81 => ⟨S_, .f32⟩
  | 82 => ⟨S131072, .f32⟩
  | 83 => ⟨S131072, .f32⟩
  | 84 => ⟨S131072x1, .f32⟩
  | 85 => ⟨S131072, .f32⟩
  | 86 => ⟨S_, .f32⟩
  | 87 => ⟨S131072, .f32⟩
  | 88 => ⟨S131072, .f32⟩
  | 89 => ⟨S_, .f32⟩
  | 90 => ⟨S131072, .f32⟩
  | 91 => ⟨S131072, .f32⟩
  | 92 => ⟨S_, .f32⟩
  | 93 => ⟨S131072, .f32⟩
  | 94 => ⟨S131072, .f32⟩
  | 95 => ⟨S131072, .f32⟩
  | 96 => ⟨S131072, .f32⟩
  | 97 => ⟨S131072, .f32⟩
  | 98 => ⟨S131072, .f32⟩
  | 99 => ⟨S131072, .i32⟩
  | 100 => ⟨S_, .i32⟩
  | 101 => ⟨S_, .i32⟩
  | 102 => ⟨S_, .i32⟩
  | 103 => ⟨S131072, .i32⟩
  | 104 => ⟨S131072, .i32⟩
  | 105 => ⟨S_, .i32⟩
  | 106 => ⟨S131072, .i32⟩
  | 107 => ⟨S131072, .i32⟩
  | 108 => ⟨S_, .i32⟩
  | 109 => ⟨S131072, .i32⟩
  | 110 => ⟨S131072, .i32⟩
  | 111 => ⟨S_, .i32⟩
  | 112 => ⟨S_, .i32⟩
  | 113 => ⟨S_, .i32⟩
  | 114 => ⟨S131072, .i32⟩
  | 115 => ⟨S131072, .i32⟩
  | 116 => ⟨S_, .i32⟩
  | 117 => ⟨S131072, .i32⟩
  | 118 => ⟨S131072, .i32⟩
  | 119 => ⟨S131072, .i32⟩
  | 120 => ⟨S_, .i32⟩
  | 121 => ⟨S_, .i32⟩
  | 122 => ⟨S_, .i32⟩
  | 123 => ⟨S131072, .i32⟩
  | 124 => ⟨S131072, .i32⟩
  | 125 => ⟨S_, .i32⟩
  | 126 => ⟨S131072, .i32⟩
  | 127 => ⟨S131072, .i32⟩
  | _ => ⟨S4096x32x3, .f32⟩

abbrev hbmTy0_23 (i : Nat) : BufTy := match i % 128 with
  | 0 => ⟨S_, .i32⟩
  | 1 => ⟨S131072, .i32⟩
  | 2 => ⟨S131072, .i32⟩
  | 3 => ⟨S_, .i32⟩
  | 4 => ⟨S_, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S131072x1, .i32⟩
  | 27 => ⟨S131072x2, .i32⟩
  | 28 => ⟨S32x131072, .f32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S131072x1, .i32⟩
  | 45 => ⟨S131072x2, .i32⟩
  | 46 => ⟨S32x131072, .f32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S131072x1, .i32⟩
  | 63 => ⟨S131072x2, .i32⟩
  | 64 => ⟨S32x131072, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S131072x1, .i32⟩
  | 80 => ⟨S131072x1, .i32⟩
  | 81 => ⟨S131072x2, .i32⟩
  | 82 => ⟨S32x131072, .f32⟩
  | 83 => ⟨S_, .f32⟩
  | 84 => ⟨S131072, .f32⟩
  | 85 => ⟨S131072, .f32⟩
  | 86 => ⟨S1x131072, .f32⟩
  | 87 => ⟨S32x131072, .f32⟩
  | 88 => ⟨S32x131072, .f32⟩
  | 89 => ⟨S_, .f32⟩
  | 90 => ⟨S131072, .f32⟩
  | 91 => ⟨S131072, .f32⟩
  | 92 => ⟨S1x131072, .f32⟩
  | 93 => ⟨S32x131072, .f32⟩
  | 94 => ⟨S32x131072, .f32⟩
  | 95 => ⟨S1x131072, .f32⟩
  | 96 => ⟨S32x131072, .f32⟩
  | 97 => ⟨S32x131072, .f32⟩
  | 98 => ⟨S_, .f32⟩
  | 99 => ⟨S131072, .f32⟩
  | 100 => ⟨S131072, .f32⟩
  | 101 => ⟨S1x131072, .f32⟩
  | 102 => ⟨S32x131072, .f32⟩
  | 103 => ⟨S32x131072, .f32⟩
  | 104 => ⟨S32x131072, .f32⟩
  | 105 => ⟨S_, .f32⟩
  | 106 => ⟨S131072, .f32⟩
  | 107 => ⟨S131072, .f32⟩
  | 108 => ⟨S1x131072, .f32⟩
  | 109 => ⟨S32x131072, .f32⟩
  | 110 => ⟨S32x131072, .f32⟩
  | 111 => ⟨S1x131072, .f32⟩
  | 112 => ⟨S32x131072, .f32⟩
  | 113 => ⟨S32x131072, .f32⟩
  | 114 => ⟨S32x131072, .f32⟩
  | 115 => ⟨S1x131072, .f32⟩
  | 116 => ⟨S32x131072, .f32⟩
  | 117 => ⟨S32x131072, .f32⟩
  | 118 => ⟨S1x131072, .f32⟩
  | 119 => ⟨S32x131072, .f32⟩
  | 120 => ⟨S32x131072, .f32⟩
  | 121 => ⟨S32x131072, .f32⟩
  | 122 => ⟨S131072x32, .f32⟩
  | 123 => ⟨S131072x32, .f32⟩
  | 124 => ⟨S_, .i32⟩
  | 125 => ⟨S2, .i32⟩
  | 126 => ⟨S2, .i1⟩
  | 127 => ⟨S_, .i32⟩
  | _ => ⟨S4096x32x3, .f32⟩

abbrev hbmTy0_24 (i : Nat) : BufTy := match i % 128 with
  | 0 => ⟨S2, .i32⟩
  | 1 => ⟨S2, .i32⟩
  | 2 => ⟨S2, .i32⟩
  | 3 => ⟨S2x1, .i32⟩
  | 4 => ⟨S131072x2, .f32⟩
  | 5 => ⟨S131072x1, .f32⟩
  | 6 => ⟨S131072, .f32⟩
  | 7 => ⟨S_, .f32⟩
  | 8 => ⟨S131072, .f32⟩
  | 9 => ⟨S131072, .f32⟩
  | 10 => ⟨S_, .f32⟩
  | 11 => ⟨S131072, .f32⟩
  | 12 => ⟨S131072, .f32⟩
  | 13 => ⟨S_, .f32⟩
  | 14 => ⟨S131072, .f32⟩
  | 15 => ⟨S131072, .f32⟩
  | 16 => ⟨S131072x1, .f32⟩
  | 17 => ⟨S131072, .f32⟩
  | 18 => ⟨S_, .f32⟩
  | 19 => ⟨S131072, .f32⟩
  | 20 => ⟨S131072, .f32⟩
  | 21 => ⟨S_, .f32⟩
  | 22 => ⟨S131072, .f32⟩
  | 23 => ⟨S131072, .f32⟩
  | 24 => ⟨S_, .f32⟩
  | 25 => ⟨S131072, .f32⟩
  | 26 => ⟨S131072, .f32⟩
  | 27 => ⟨S131072, .f32⟩
  | 28 => ⟨S131072, .f32⟩
  | 29 => ⟨S131072, .f32⟩
  | 30 => ⟨S131072, .f32⟩
  | 31 => ⟨S131072, .i32⟩
  | 32 => ⟨S_, .i32⟩
  | 33 => ⟨S_, .i32⟩
  | 34 => ⟨S_, .i32⟩
  | 35 => ⟨S131072, .i32⟩
  | 36 => ⟨S131072, .i32⟩
  | 37 => ⟨S_, .i32⟩
  | 38 => ⟨S131072, .i32⟩
  | 39 => ⟨S131072, .i32⟩
  | 40 => ⟨S_, .i32⟩
  | 41 => ⟨S131072, .i32⟩
  | 42 => ⟨S131072, .i32⟩
  | 43 => ⟨S_, .i32⟩
  | 44 => ⟨S_, .i32⟩
  | 45 => ⟨S_, .i32⟩
  | 46 => ⟨S131072, .i32⟩
  | 47 => ⟨S131072, .i32⟩
  | 48 => ⟨S_, .i32⟩
  | 49 => ⟨S131072, .i32⟩
  | 50 => ⟨S131072, .i32⟩
  | 51 => ⟨S131072, .i32⟩
  | 52 => ⟨S_, .i32⟩
  | 53 => ⟨S_, .i32⟩
  | 54 => ⟨S_, .i32⟩
  | 55 => ⟨S131072, .i32⟩
  | 56 => ⟨S131072, .i32⟩
  | 57 => ⟨S_, .i32⟩
  | 58 => ⟨S131072, .i32⟩
  | 59 => ⟨S131072, .i32⟩
  | 60 => ⟨S_, .i32⟩
  | 61 => ⟨S131072, .i32⟩
  | 62 => ⟨S131072, .i32⟩
  | 63 => ⟨S_, .i32⟩
  | 64 => ⟨S_, .i32⟩
  | 65 => ⟨S_, .i32⟩
  | 66 => ⟨S131072, .i32⟩
  | 67 => ⟨S131072, .i32⟩
  | 68 => ⟨S_, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S131072x1, .i32⟩
  | 86 => ⟨S131072x1, .i32⟩
  | 87 => ⟨S131072x2, .i32⟩
  | 88 => ⟨S32x131072, .f32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S131072x1, .i32⟩
  | 104 => ⟨S131072x1, .i32⟩
  | 105 => ⟨S131072x2, .i32⟩
  | 106 => ⟨S32x131072, .f32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S131072x1, .i32⟩
  | 122 => ⟨S131072x1, .i32⟩
  | 123 => ⟨S131072x2, .i32⟩
  | 124 => ⟨S32x131072, .f32⟩
  | 125 => ⟨S_, .i32⟩
  | 126 => ⟨S131072, .i32⟩
  | 127 => ⟨S131072, .i1⟩
  | _ => ⟨S4096x32x3, .f32⟩

abbrev hbmTy0_25 (i : Nat) : BufTy := match i % 128 with
  | 0 => ⟨S_, .i32⟩
  | 1 => ⟨S131072, .i32⟩
  | 2 => ⟨S131072, .i32⟩
  | 3 => ⟨S131072, .i32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x1, .i32⟩
  | 13 => ⟨S131072x2, .i32⟩
  | 14 => ⟨S32x131072, .f32⟩
  | 15 => ⟨S_, .f32⟩
  | 16 => ⟨S131072, .f32⟩
  | 17 => ⟨S131072, .f32⟩
  | 18 => ⟨S1x131072, .f32⟩
  | 19 => ⟨S32x131072, .f32⟩
  | 20 => ⟨S32x131072, .f32⟩
  | 21 => ⟨S_, .f32⟩
  | 22 => ⟨S131072, .f32⟩
  | 23 => ⟨S131072, .f32⟩
  | 24 => ⟨S1x131072, .f32⟩
  | 25 => ⟨S32x131072, .f32⟩
  | 26 => ⟨S32x131072, .f32⟩
  | 27 => ⟨S1x131072, .f32⟩
  | 28 => ⟨S32x131072, .f32⟩
  | 29 => ⟨S32x131072, .f32⟩
  | 30 => ⟨S_, .f32⟩
  | 31 => ⟨S131072, .f32⟩
  | 32 => ⟨S131072, .f32⟩
  | 33 => ⟨S1x131072, .f32⟩
  | 34 => ⟨S32x131072, .f32⟩
  | 35 => ⟨S32x131072, .f32⟩
  | 36 => ⟨S32x131072, .f32⟩
  | 37 => ⟨S_, .f32⟩
  | 38 => ⟨S131072, .f32⟩
  | 39 => ⟨S131072, .f32⟩
  | 40 => ⟨S1x131072, .f32⟩
  | 41 => ⟨S32x131072, .f32⟩
  | 42 => ⟨S32x131072, .f32⟩
  | 43 => ⟨S1x131072, .f32⟩
  | 44 => ⟨S32x131072, .f32⟩
  | 45 => ⟨S32x131072, .f32⟩
  | 46 => ⟨S32x131072, .f32⟩
  | 47 => ⟨S1x131072, .f32⟩
  | 48 => ⟨S32x131072, .f32⟩
  | 49 => ⟨S32x131072, .f32⟩
  | 50 => ⟨S1x131072, .f32⟩
  | 51 => ⟨S32x131072, .f32⟩
  | 52 => ⟨S32x131072, .f32⟩
  | 53 => ⟨S32x131072, .f32⟩
  | 54 => ⟨S131072x32, .f32⟩
  | 55 => ⟨S131072x32, .f32⟩
  | 56 => ⟨S_, .i32⟩
  | 57 => ⟨S2, .i32⟩
  | 58 => ⟨S2, .i1⟩
  | 59 => ⟨S_, .i32⟩
  | 60 => ⟨S2, .i32⟩
  | 61 => ⟨S2, .i32⟩
  | 62 => ⟨S2, .i32⟩
  | 63 => ⟨S2x1, .i32⟩
  | 64 => ⟨S131072x2, .f32⟩
  | 65 => ⟨S131072x1, .f32⟩
  | 66 => ⟨S131072, .f32⟩
  | 67 => ⟨S_, .f32⟩
  | 68 => ⟨S131072, .f32⟩
  | 69 => ⟨S131072, .f32⟩
  | 70 => ⟨S_, .f32⟩
  | 71 => ⟨S131072, .f32⟩
  | 72 => ⟨S131072, .f32⟩
  | 73 => ⟨S_, .f32⟩
  | 74 => ⟨S131072, .f32⟩
  | 75 => ⟨S131072, .f32⟩
  | 76 => ⟨S131072x1, .f32⟩
  | 77 => ⟨S131072, .f32⟩
  | 78 => ⟨S_, .f32⟩
  | 79 => ⟨S131072, .f32⟩
  | 80 => ⟨S131072, .f32⟩
  | 81 => ⟨S_, .f32⟩
  | 82 => ⟨S131072, .f32⟩
  | 83 => ⟨S131072, .f32⟩
  | 84 => ⟨S_, .f32⟩
  | 85 => ⟨S131072, .f32⟩
  | 86 => ⟨S131072, .f32⟩
  | 87 => ⟨S131072, .f32⟩
  | 88 => ⟨S131072, .f32⟩
  | 89 => ⟨S131072, .f32⟩
  | 90 => ⟨S131072, .f32⟩
  | 91 => ⟨S131072, .i32⟩
  | 92 => ⟨S_, .i32⟩
  | 93 => ⟨S_, .i32⟩
  | 94 => ⟨S_, .i32⟩
  | 95 => ⟨S131072, .i32⟩
  | 96 => ⟨S131072, .i32⟩
  | 97 => ⟨S_, .i32⟩
  | 98 => ⟨S131072, .i32⟩
  | 99 => ⟨S131072, .i32⟩
  | 100 => ⟨S_, .i32⟩
  | 101 => ⟨S131072, .i32⟩
  | 102 => ⟨S131072, .i32⟩
  | 103 => ⟨S_, .i32⟩
  | 104 => ⟨S_, .i32⟩
  | 105 => ⟨S_, .i32⟩
  | 106 => ⟨S131072, .i32⟩
  | 107 => ⟨S131072, .i32⟩
  | 108 => ⟨S_, .i32⟩
  | 109 => ⟨S131072, .i32⟩
  | 110 => ⟨S131072, .i32⟩
  | 111 => ⟨S131072, .i32⟩
  | 112 => ⟨S_, .i32⟩
  | 113 => ⟨S_, .i32⟩
  | 114 => ⟨S_, .i32⟩
  | 115 => ⟨S131072, .i32⟩
  | 116 => ⟨S131072, .i32⟩
  | 117 => ⟨S_, .i32⟩
  | 118 => ⟨S131072, .i32⟩
  | 119 => ⟨S131072, .i32⟩
  | 120 => ⟨S_, .i32⟩
  | 121 => ⟨S131072, .i32⟩
  | 122 => ⟨S131072, .i32⟩
  | 123 => ⟨S_, .i32⟩
  | 124 => ⟨S_, .i32⟩
  | 125 => ⟨S_, .i32⟩
  | 126 => ⟨S131072, .i32⟩
  | 127 => ⟨S131072, .i32⟩
  | _ => ⟨S4096x32x3, .f32⟩

abbrev hbmTy0_26 (i : Nat) : BufTy := match i % 128 with
  | 0 => ⟨S_, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S131072x1, .i32⟩
  | 18 => ⟨S131072x1, .i32⟩
  | 19 => ⟨S131072x2, .i32⟩
  | 20 => ⟨S32x131072, .f32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072x1, .i32⟩
  | 37 => ⟨S131072x2, .i32⟩
  | 38 => ⟨S32x131072, .f32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x1, .i32⟩
  | 55 => ⟨S131072x2, .i32⟩
  | 56 => ⟨S32x131072, .f32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S131072x1, .i32⟩
  | 73 => ⟨S131072x2, .i32⟩
  | 74 => ⟨S32x131072, .f32⟩
  | 75 => ⟨S_, .f32⟩
  | 76 => ⟨S131072, .f32⟩
  | 77 => ⟨S131072, .f32⟩
  | 78 => ⟨S1x131072, .f32⟩
  | 79 => ⟨S32x131072, .f32⟩
  | 80 => ⟨S32x131072, .f32⟩
  | 81 => ⟨S_, .f32⟩
  | 82 => ⟨S131072, .f32⟩
  | 83 => ⟨S131072, .f32⟩
  | 84 => ⟨S1x131072, .f32⟩
  | 85 => ⟨S32x131072, .f32⟩
  | 86 => ⟨S32x131072, .f32⟩
  | 87 => ⟨S1x131072, .f32⟩
  | 88 => ⟨S32x131072, .f32⟩
  | 89 => ⟨S32x131072, .f32⟩
  | 90 => ⟨S_, .f32⟩
  | 91 => ⟨S131072, .f32⟩
  | 92 => ⟨S131072, .f32⟩
  | 93 => ⟨S1x131072, .f32⟩
  | 94 => ⟨S32x131072, .f32⟩
  | 95 => ⟨S32x131072, .f32⟩
  | 96 => ⟨S32x131072, .f32⟩
  | 97 => ⟨S_, .f32⟩
  | 98 => ⟨S131072, .f32⟩
  | 99 => ⟨S131072, .f32⟩
  | 100 => ⟨S1x131072, .f32⟩
  | 101 => ⟨S32x131072, .f32⟩
  | 102 => ⟨S32x131072, .f32⟩
  | 103 => ⟨S1x131072, .f32⟩
  | 104 => ⟨S32x131072, .f32⟩
  | 105 => ⟨S32x131072, .f32⟩
  | 106 => ⟨S32x131072, .f32⟩
  | 107 => ⟨S1x131072, .f32⟩
  | 108 => ⟨S32x131072, .f32⟩
  | 109 => ⟨S32x131072, .f32⟩
  | 110 => ⟨S1x131072, .f32⟩
  | 111 => ⟨S32x131072, .f32⟩
  | 112 => ⟨S32x131072, .f32⟩
  | 113 => ⟨S32x131072, .f32⟩
  | 114 => ⟨S131072x32, .f32⟩
  | 115 => ⟨S131072x32, .f32⟩
  | 116 => ⟨S_, .i32⟩
  | 117 => ⟨S2, .i32⟩
  | 118 => ⟨S2, .i1⟩
  | 119 => ⟨S_, .i32⟩
  | 120 => ⟨S2, .i32⟩
  | 121 => ⟨S2, .i32⟩
  | 122 => ⟨S2, .i32⟩
  | 123 => ⟨S2x1, .i32⟩
  | 124 => ⟨S131072x2, .f32⟩
  | 125 => ⟨S131072x1, .f32⟩
  | 126 => ⟨S131072, .f32⟩
  | 127 => ⟨S_, .f32⟩
  | _ => ⟨S4096x32x3, .f32⟩

abbrev hbmTy0_27 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S_, .f32⟩
  | 6 => ⟨S131072, .f32⟩
  | 7 => ⟨S131072, .f32⟩
  | 8 => ⟨S131072x1, .f32⟩
  | 9 => ⟨S131072, .f32⟩
  | 10 => ⟨S_, .f32⟩
  | 11 => ⟨S131072, .f32⟩
  | 12 => ⟨S131072, .f32⟩
  | 13 => ⟨S_, .f32⟩
  | 14 => ⟨S131072, .f32⟩
  | 15 => ⟨S131072, .f32⟩
  | 16 => ⟨S_, .f32⟩
  | 17 => ⟨S131072, .f32⟩
  | 18 => ⟨S131072, .f32⟩
  | 19 => ⟨S131072, .f32⟩
  | 20 => ⟨S131072, .f32⟩
  | 21 => ⟨S131072, .f32⟩
  | 22 => ⟨S131072, .f32⟩
  | 23 => ⟨S131072, .i32⟩
  | 24 => ⟨S_, .i32⟩
  | 25 => ⟨S_, .i32⟩
  | 26 => ⟨S_, .i32⟩
  | 27 => ⟨S131072, .i32⟩
  | 28 => ⟨S131072, .i32⟩
  | 29 => ⟨S_, .i32⟩
  | 30 => ⟨S131072, .i32⟩
  | 31 => ⟨S131072, .i32⟩
  | 32 => ⟨S_, .i32⟩
  | 33 => ⟨S131072, .i32⟩
  | 34 => ⟨S131072, .i32⟩
  | 35 => ⟨S_, .i32⟩
  | 36 => ⟨S_, .i32⟩
  | 37 => ⟨S_, .i32⟩
  | 38 => ⟨S131072, .i32⟩
  | 39 => ⟨S131072, .i32⟩
  | 40 => ⟨S_, .i32⟩
  | 41 => ⟨S131072, .i32⟩
  | 42 => ⟨S131072, .i32⟩
  | 43 => ⟨S131072, .i32⟩
  | 44 => ⟨S_, .i32⟩
  | 45 => ⟨S_, .i32⟩
  | 46 => ⟨S_, .i32⟩
  | 47 => ⟨S131072, .i32⟩
  | 48 => ⟨S131072, .i32⟩
  | 49 => ⟨S_, .i32⟩
  | 50 => ⟨S131072, .i32⟩
  | 51 => ⟨S131072, .i32⟩
  | 52 => ⟨S_, .i32⟩
  | 53 => ⟨S131072, .i32⟩
  | 54 => ⟨S131072, .i32⟩
  | 55 => ⟨S_, .i32⟩
  | 56 => ⟨S_, .i32⟩
  | 57 => ⟨S_, .i32⟩
  | 58 => ⟨S131072, .i32⟩
  | 59 => ⟨S131072, .i32⟩
  | 60 => ⟨S_, .i32⟩
  | 61 => ⟨S131072, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S_, .i32⟩
  | 71 => ⟨S131072, .i32⟩
  | 72 => ⟨S131072, .i1⟩
  | 73 => ⟨S_, .i32⟩
  | 74 => ⟨S131072, .i32⟩
  | 75 => ⟨S131072, .i32⟩
  | 76 => ⟨S131072, .i32⟩
  | 77 => ⟨S131072x1, .i32⟩
  | 78 => ⟨S131072x1, .i32⟩
  | 79 => ⟨S131072x2, .i32⟩
  | 80 => ⟨S32x131072, .f32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S_, .i32⟩
  | 89 => ⟨S131072, .i32⟩
  | 90 => ⟨S131072, .i1⟩
  | 91 => ⟨S_, .i32⟩
  | 92 => ⟨S131072, .i32⟩
  | 93 => ⟨S131072, .i32⟩
  | 94 => ⟨S131072, .i32⟩
  | 95 => ⟨S131072x1, .i32⟩
  | 96 => ⟨S131072x1, .i32⟩
  | 97 => ⟨S131072x2, .i32⟩
  | 98 => ⟨S32x131072, .f32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S131072x1, .i32⟩
  | 114 => ⟨S131072x1, .i32⟩
  | 115 => ⟨S131072x2, .i32⟩
  | 116 => ⟨S32x131072, .f32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S4096x32x3, .f32⟩

abbrev hbmTy0_28 (i : Nat) : BufTy := match i % 128 with
  | 0 => ⟨S131072, .i32⟩
  | 1 => ⟨S131072, .i32⟩
  | 2 => ⟨S131072, .i32⟩
  | 3 => ⟨S131072x1, .i32⟩
  | 4 => ⟨S131072x1, .i32⟩
  | 5 => ⟨S131072x2, .i32⟩
  | 6 => ⟨S32x131072, .f32⟩
  | 7 => ⟨S_, .f32⟩
  | 8 => ⟨S131072, .f32⟩
  | 9 => ⟨S131072, .f32⟩
  | 10 => ⟨S1x131072, .f32⟩
  | 11 => ⟨S32x131072, .f32⟩
  | 12 => ⟨S32x131072, .f32⟩
  | 13 => ⟨S_, .f32⟩
  | 14 => ⟨S131072, .f32⟩
  | 15 => ⟨S131072, .f32⟩
  | 16 => ⟨S1x131072, .f32⟩
  | 17 => ⟨S32x131072, .f32⟩
  | 18 => ⟨S32x131072, .f32⟩
  | 19 => ⟨S1x131072, .f32⟩
  | 20 => ⟨S32x131072, .f32⟩
  | 21 => ⟨S32x131072, .f32⟩
  | 22 => ⟨S_, .f32⟩
  | 23 => ⟨S131072, .f32⟩
  | 24 => ⟨S131072, .f32⟩
  | 25 => ⟨S1x131072, .f32⟩
  | 26 => ⟨S32x131072, .f32⟩
  | 27 => ⟨S32x131072, .f32⟩
  | 28 => ⟨S32x131072, .f32⟩
  | 29 => ⟨S_, .f32⟩
  | 30 => ⟨S131072, .f32⟩
  | 31 => ⟨S131072, .f32⟩
  | 32 => ⟨S1x131072, .f32⟩
  | 33 => ⟨S32x131072, .f32⟩
  | 34 => ⟨S32x131072, .f32⟩
  | 35 => ⟨S1x131072, .f32⟩
  | 36 => ⟨S32x131072, .f32⟩
  | 37 => ⟨S32x131072, .f32⟩
  | 38 => ⟨S32x131072, .f32⟩
  | 39 => ⟨S1x131072, .f32⟩
  | 40 => ⟨S32x131072, .f32⟩
  | 41 => ⟨S32x131072, .f32⟩
  | 42 => ⟨S1x131072, .f32⟩
  | 43 => ⟨S32x131072, .f32⟩
  | 44 => ⟨S32x131072, .f32⟩
  | 45 => ⟨S32x131072, .f32⟩
  | 46 => ⟨S131072x32, .f32⟩
  | 47 => ⟨S_, .i32⟩
  | 48 => ⟨S2, .i32⟩
  | 49 => ⟨S2, .i1⟩
  | 50 => ⟨S_, .i32⟩
  | 51 => ⟨S2, .i32⟩
  | 52 => ⟨S2, .i32⟩
  | 53 => ⟨S2, .i32⟩
  | 54 => ⟨S2x1, .i32⟩
  | 55 => ⟨S131072x2, .f32⟩
  | 56 => ⟨S131072x1, .f32⟩
  | 57 => ⟨S131072, .f32⟩
  | 58 => ⟨S_, .f32⟩
  | 59 => ⟨S131072, .f32⟩
  | 60 => ⟨S131072, .f32⟩
  | 61 => ⟨S_, .f32⟩
  | 62 => ⟨S131072, .f32⟩
  | 63 => ⟨S131072, .f32⟩
  | 64 => ⟨S_, .f32⟩
  | 65 => ⟨S131072, .f32⟩
  | 66 => ⟨S131072, .f32⟩
  | 67 => ⟨S131072x1, .f32⟩
  | 68 => ⟨S131072, .f32⟩
  | 69 => ⟨S_, .f32⟩
  | 70 => ⟨S131072, .f32⟩
  | 71 => ⟨S131072, .f32⟩
  | 72 => ⟨S_, .f32⟩
  | 73 => ⟨S131072, .f32⟩
  | 74 => ⟨S131072, .f32⟩
  | 75 => ⟨S_, .f32⟩
  | 76 => ⟨S131072, .f32⟩
  | 77 => ⟨S131072, .f32⟩
  | 78 => ⟨S131072, .f32⟩
  | 79 => ⟨S131072, .f32⟩
  | 80 => ⟨S131072, .f32⟩
  | 81 => ⟨S131072, .f32⟩
  | 82 => ⟨S131072, .i32⟩
  | 83 => ⟨S_, .i32⟩
  | 84 => ⟨S_, .i32⟩
  | 85 => ⟨S_, .i32⟩
  | 86 => ⟨S131072, .i32⟩
  | 87 => ⟨S131072, .i32⟩
  | 88 => ⟨S_, .i32⟩
  | 89 => ⟨S131072, .i32⟩
  | 90 => ⟨S131072, .i32⟩
  | 91 => ⟨S_, .i32⟩
  | 92 => ⟨S131072, .i32⟩
  | 93 => ⟨S131072, .i32⟩
  | 94 => ⟨S_, .i32⟩
  | 95 => ⟨S_, .i32⟩
  | 96 => ⟨S_, .i32⟩
  | 97 => ⟨S131072, .i32⟩
  | 98 => ⟨S131072, .i32⟩
  | 99 => ⟨S_, .i32⟩
  | 100 => ⟨S131072, .i32⟩
  | 101 => ⟨S131072, .i32⟩
  | 102 => ⟨S131072, .i32⟩
  | 103 => ⟨S_, .i32⟩
  | 104 => ⟨S_, .i32⟩
  | 105 => ⟨S_, .i32⟩
  | 106 => ⟨S131072, .i32⟩
  | 107 => ⟨S131072, .i32⟩
  | 108 => ⟨S_, .i32⟩
  | 109 => ⟨S131072, .i32⟩
  | 110 => ⟨S131072, .i32⟩
  | 111 => ⟨S_, .i32⟩
  | 112 => ⟨S131072, .i32⟩
  | 113 => ⟨S131072, .i32⟩
  | 114 => ⟨S_, .i32⟩
  | 115 => ⟨S_, .i32⟩
  | 116 => ⟨S_, .i32⟩
  | 117 => ⟨S131072, .i32⟩
  | 118 => ⟨S131072, .i32⟩
  | 119 => ⟨S_, .i32⟩
  | 120 => ⟨S131072, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S4096x32x3, .f32⟩

abbrev hbmTy0_29 (i : Nat) : BufTy := match i % 128 with
  | 0 => ⟨S131072, .i32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x1, .i32⟩
  | 10 => ⟨S131072x2, .i32⟩
  | 11 => ⟨S32x131072, .f32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x1, .i32⟩
  | 28 => ⟨S131072x2, .i32⟩
  | 29 => ⟨S32x131072, .f32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S131072x1, .i32⟩
  | 46 => ⟨S131072x2, .i32⟩
  | 47 => ⟨S32x131072, .f32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S131072x1, .i32⟩
  | 63 => ⟨S131072x1, .i32⟩
  | 64 => ⟨S131072x2, .i32⟩
  | 65 => ⟨S32x131072, .f32⟩
  | 66 => ⟨S_, .f32⟩
  | 67 => ⟨S131072, .f32⟩
  | 68 => ⟨S131072, .f32⟩
  | 69 => ⟨S1x131072, .f32⟩
  | 70 => ⟨S32x131072, .f32⟩
  | 71 => ⟨S32x131072, .f32⟩
  | 72 => ⟨S_, .f32⟩
  | 73 => ⟨S131072, .f32⟩
  | 74 => ⟨S131072, .f32⟩
  | 75 => ⟨S1x131072, .f32⟩
  | 76 => ⟨S32x131072, .f32⟩
  | 77 => ⟨S32x131072, .f32⟩
  | 78 => ⟨S1x131072, .f32⟩
  | 79 => ⟨S32x131072, .f32⟩
  | 80 => ⟨S32x131072, .f32⟩
  | 81 => ⟨S_, .f32⟩
  | 82 => ⟨S131072, .f32⟩
  | 83 => ⟨S131072, .f32⟩
  | 84 => ⟨S1x131072, .f32⟩
  | 85 => ⟨S32x131072, .f32⟩
  | 86 => ⟨S32x131072, .f32⟩
  | 87 => ⟨S32x131072, .f32⟩
  | 88 => ⟨S_, .f32⟩
  | 89 => ⟨S131072, .f32⟩
  | 90 => ⟨S131072, .f32⟩
  | 91 => ⟨S1x131072, .f32⟩
  | 92 => ⟨S32x131072, .f32⟩
  | 93 => ⟨S32x131072, .f32⟩
  | 94 => ⟨S1x131072, .f32⟩
  | 95 => ⟨S32x131072, .f32⟩
  | 96 => ⟨S32x131072, .f32⟩
  | 97 => ⟨S32x131072, .f32⟩
  | 98 => ⟨S1x131072, .f32⟩
  | 99 => ⟨S32x131072, .f32⟩
  | 100 => ⟨S32x131072, .f32⟩
  | 101 => ⟨S1x131072, .f32⟩
  | 102 => ⟨S32x131072, .f32⟩
  | 103 => ⟨S32x131072, .f32⟩
  | 104 => ⟨S32x131072, .f32⟩
  | 105 => ⟨S131072x32, .f32⟩
  | 106 => ⟨S131072x32, .f32⟩
  | 107 => ⟨S_, .i32⟩
  | 108 => ⟨S2, .i32⟩
  | 109 => ⟨S2, .i1⟩
  | 110 => ⟨S_, .i32⟩
  | 111 => ⟨S2, .i32⟩
  | 112 => ⟨S2, .i32⟩
  | 113 => ⟨S2, .i32⟩
  | 114 => ⟨S2x1, .i32⟩
  | 115 => ⟨S131072x2, .f32⟩
  | 116 => ⟨S131072x1, .f32⟩
  | 117 => ⟨S131072, .f32⟩
  | 118 => ⟨S_, .f32⟩
  | 119 => ⟨S131072, .f32⟩
  | 120 => ⟨S131072, .f32⟩
  | 121 => ⟨S_, .f32⟩
  | 122 => ⟨S131072, .f32⟩
  | 123 => ⟨S131072, .f32⟩
  | 124 => ⟨S_, .f32⟩
  | 125 => ⟨S131072, .f32⟩
  | 126 => ⟨S131072, .f32⟩
  | 127 => ⟨S131072x1, .f32⟩
  | _ => ⟨S4096x32x3, .f32⟩

abbrev hbmTy0_30 (i : Nat) : BufTy := match i % 128 with
  | 0 => ⟨S131072, .f32⟩
  | 1 => ⟨S_, .f32⟩
  | 2 => ⟨S131072, .f32⟩
  | 3 => ⟨S131072, .f32⟩
  | 4 => ⟨S_, .f32⟩
  | 5 => ⟨S131072, .f32⟩
  | 6 => ⟨S131072, .f32⟩
  | 7 => ⟨S_, .f32⟩
  | 8 => ⟨S131072, .f32⟩
  | 9 => ⟨S131072, .f32⟩
  | 10 => ⟨S131072, .f32⟩
  | 11 => ⟨S131072, .f32⟩
  | 12 => ⟨S131072, .f32⟩
  | 13 => ⟨S131072, .f32⟩
  | 14 => ⟨S131072, .i32⟩
  | 15 => ⟨S_, .i32⟩
  | 16 => ⟨S_, .i32⟩
  | 17 => ⟨S_, .i32⟩
  | 18 => ⟨S131072, .i32⟩
  | 19 => ⟨S131072, .i32⟩
  | 20 => ⟨S_, .i32⟩
  | 21 => ⟨S131072, .i32⟩
  | 22 => ⟨S131072, .i32⟩
  | 23 => ⟨S_, .i32⟩
  | 24 => ⟨S131072, .i32⟩
  | 25 => ⟨S131072, .i32⟩
  | 26 => ⟨S_, .i32⟩
  | 27 => ⟨S_, .i32⟩
  | 28 => ⟨S_, .i32⟩
  | 29 => ⟨S131072, .i32⟩
  | 30 => ⟨S131072, .i32⟩
  | 31 => ⟨S_, .i32⟩
  | 32 => ⟨S131072, .i32⟩
  | 33 => ⟨S131072, .i32⟩
  | 34 => ⟨S131072, .i32⟩
  | 35 => ⟨S_, .i32⟩
  | 36 => ⟨S_, .i32⟩
  | 37 => ⟨S_, .i32⟩
  | 38 => ⟨S131072, .i32⟩
  | 39 => ⟨S131072, .i32⟩
  | 40 => ⟨S_, .i32⟩
  | 41 => ⟨S131072, .i32⟩
  | 42 => ⟨S131072, .i32⟩
  | 43 => ⟨S_, .i32⟩
  | 44 => ⟨S131072, .i32⟩
  | 45 => ⟨S131072, .i32⟩
  | 46 => ⟨S_, .i32⟩
  | 47 => ⟨S_, .i32⟩
  | 48 => ⟨S_, .i32⟩
  | 49 => ⟨S131072, .i32⟩
  | 50 => ⟨S131072, .i32⟩
  | 51 => ⟨S_, .i32⟩
  | 52 => ⟨S131072, .i32⟩
  | 53 => ⟨S131072, .i32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x1, .i32⟩
  | 70 => ⟨S131072x2, .i32⟩
  | 71 => ⟨S32x131072, .f32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S131072x1, .i32⟩
  | 88 => ⟨S131072x2, .i32⟩
  | 89 => ⟨S32x131072, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072x1, .i32⟩
  | 106 => ⟨S131072x2, .i32⟩
  | 107 => ⟨S32x131072, .f32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S131072x1, .i32⟩
  | 124 => ⟨S131072x2, .i32⟩
  | 125 => ⟨S32x131072, .f32⟩
  | 126 => ⟨S_, .f32⟩
  | 127 => ⟨S131072, .f32⟩
  | _ => ⟨S4096x32x3, .f32⟩

abbrev hbmTy0_31 (i : Nat) : BufTy := match i % 128 with
  | 0 => ⟨S131072, .f32⟩
  | 1 => ⟨S1x131072, .f32⟩
  | 2 => ⟨S32x131072, .f32⟩
  | 3 => ⟨S32x131072, .f32⟩
  | 4 => ⟨S_, .f32⟩
  | 5 => ⟨S131072, .f32⟩
  | 6 => ⟨S131072, .f32⟩
  | 7 => ⟨S1x131072, .f32⟩
  | 8 => ⟨S32x131072, .f32⟩
  | 9 => ⟨S32x131072, .f32⟩
  | 10 => ⟨S1x131072, .f32⟩
  | 11 => ⟨S32x131072, .f32⟩
  | 12 => ⟨S32x131072, .f32⟩
  | 13 => ⟨S_, .f32⟩
  | 14 => ⟨S131072, .f32⟩
  | 15 => ⟨S131072, .f32⟩
  | 16 => ⟨S1x131072, .f32⟩
  | 17 => ⟨S32x131072, .f32⟩
  | 18 => ⟨S32x131072, .f32⟩
  | 19 => ⟨S32x131072, .f32⟩
  | 20 => ⟨S_, .f32⟩
  | 21 => ⟨S131072, .f32⟩
  | 22 => ⟨S131072, .f32⟩
  | 23 => ⟨S1x131072, .f32⟩
  | 24 => ⟨S32x131072, .f32⟩
  | 25 => ⟨S32x131072, .f32⟩
  | 26 => ⟨S1x131072, .f32⟩
  | 27 => ⟨S32x131072, .f32⟩
  | 28 => ⟨S32x131072, .f32⟩
  | 29 => ⟨S32x131072, .f32⟩
  | 30 => ⟨S1x131072, .f32⟩
  | 31 => ⟨S32x131072, .f32⟩
  | 32 => ⟨S32x131072, .f32⟩
  | 33 => ⟨S1x131072, .f32⟩
  | 34 => ⟨S32x131072, .f32⟩
  | 35 => ⟨S32x131072, .f32⟩
  | 36 => ⟨S32x131072, .f32⟩
  | 37 => ⟨S131072x32, .f32⟩
  | 38 => ⟨S131072x32, .f32⟩
  | 39 => ⟨S_, .i32⟩
  | 40 => ⟨S2, .i32⟩
  | 41 => ⟨S2, .i1⟩
  | 42 => ⟨S_, .i32⟩
  | 43 => ⟨S2, .i32⟩
  | 44 => ⟨S2, .i32⟩
  | 45 => ⟨S2, .i32⟩
  | 46 => ⟨S2x1, .i32⟩
  | 47 => ⟨S131072x2, .f32⟩
  | 48 => ⟨S131072x1, .f32⟩
  | 49 => ⟨S131072, .f32⟩
  | 50 => ⟨S_, .f32⟩
  | 51 => ⟨S131072, .f32⟩
  | 52 => ⟨S131072, .f32⟩
  | 53 => ⟨S_, .f32⟩
  | 54 => ⟨S131072, .f32⟩
  | 55 => ⟨S131072, .f32⟩
  | 56 => ⟨S_, .f32⟩
  | 57 => ⟨S131072, .f32⟩
  | 58 => ⟨S131072, .f32⟩
  | 59 => ⟨S131072x1, .f32⟩
  | 60 => ⟨S131072, .f32⟩
  | 61 => ⟨S_, .f32⟩
  | 62 => ⟨S131072, .f32⟩
  | 63 => ⟨S131072, .f32⟩
  | 64 => ⟨S_, .f32⟩
  | 65 => ⟨S131072, .f32⟩
  | 66 => ⟨S131072, .f32⟩
  | 67 => ⟨S_, .f32⟩
  | 68 => ⟨S131072, .f32⟩
  | 69 => ⟨S131072, .f32⟩
  | 70 => ⟨S131072, .f32⟩
  | 71 => ⟨S131072, .f32⟩
  | 72 => ⟨S131072, .f32⟩
  | 73 => ⟨S131072, .f32⟩
  | 74 => ⟨S131072, .i32⟩
  | 75 => ⟨S_, .i32⟩
  | 76 => ⟨S_, .i32⟩
  | 77 => ⟨S_, .i32⟩
  | 78 => ⟨S131072, .i32⟩
  | 79 => ⟨S131072, .i32⟩
  | 80 => ⟨S_, .i32⟩
  | 81 => ⟨S131072, .i32⟩
  | 82 => ⟨S131072, .i32⟩
  | 83 => ⟨S_, .i32⟩
  | 84 => ⟨S131072, .i32⟩
  | 85 => ⟨S131072, .i32⟩
  | 86 => ⟨S_, .i32⟩
  | 87 => ⟨S_, .i32⟩
  | 88 => ⟨S_, .i32⟩
  | 89 => ⟨S131072, .i32⟩
  | 90 => ⟨S131072, .i32⟩
  | 91 => ⟨S_, .i32⟩
  | 92 => ⟨S131072, .i32⟩
  | 93 => ⟨S131072, .i32⟩
  | 94 => ⟨S131072, .i32⟩
  | 95 => ⟨S_, .i32⟩
  | 96 => ⟨S_, .i32⟩
  | 97 => ⟨S_, .i32⟩
  | 98 => ⟨S131072, .i32⟩
  | 99 => ⟨S131072, .i32⟩
  | 100 => ⟨S_, .i32⟩
  | 101 => ⟨S131072, .i32⟩
  | 102 => ⟨S131072, .i32⟩
  | 103 => ⟨S_, .i32⟩
  | 104 => ⟨S131072, .i32⟩
  | 105 => ⟨S131072, .i32⟩
  | 106 => ⟨S_, .i32⟩
  | 107 => ⟨S_, .i32⟩
  | 108 => ⟨S_, .i32⟩
  | 109 => ⟨S131072, .i32⟩
  | 110 => ⟨S131072, .i32⟩
  | 111 => ⟨S_, .i32⟩
  | 112 => ⟨S131072, .i32⟩
  | 113 => ⟨S131072, .i32⟩
  | 114 => ⟨S_, .i32⟩
  | 115 => ⟨S131072, .i32⟩
  | 116 => ⟨S131072, .i1⟩
  | 117 => ⟨S_, .i32⟩
  | 118 => ⟨S131072, .i32⟩
  | 119 => ⟨S131072, .i32⟩
  | 120 => ⟨S131072, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S4096x32x3, .f32⟩

abbrev hbmTy0_32 (i : Nat) : BufTy := match i % 128 with
  | 0 => ⟨S131072x1, .i32⟩
  | 1 => ⟨S131072x1, .i32⟩
  | 2 => ⟨S131072x2, .i32⟩
  | 3 => ⟨S32x131072, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S131072x1, .i32⟩
  | 20 => ⟨S131072x2, .i32⟩
  | 21 => ⟨S32x131072, .f32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072x1, .i32⟩
  | 38 => ⟨S131072x2, .i32⟩
  | 39 => ⟨S32x131072, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072x1, .i32⟩
  | 56 => ⟨S131072x2, .i32⟩
  | 57 => ⟨S32x131072, .f32⟩
  | 58 => ⟨S_, .f32⟩
  | 59 => ⟨S131072, .f32⟩
  | 60 => ⟨S131072, .f32⟩
  | 61 => ⟨S1x131072, .f32⟩
  | 62 => ⟨S32x131072, .f32⟩
  | 63 => ⟨S32x131072, .f32⟩
  | 64 => ⟨S_, .f32⟩
  | 65 => ⟨S131072, .f32⟩
  | 66 => ⟨S131072, .f32⟩
  | 67 => ⟨S1x131072, .f32⟩
  | 68 => ⟨S32x131072, .f32⟩
  | 69 => ⟨S32x131072, .f32⟩
  | 70 => ⟨S1x131072, .f32⟩
  | 71 => ⟨S32x131072, .f32⟩
  | 72 => ⟨S32x131072, .f32⟩
  | 73 => ⟨S_, .f32⟩
  | 74 => ⟨S131072, .f32⟩
  | 75 => ⟨S131072, .f32⟩
  | 76 => ⟨S1x131072, .f32⟩
  | 77 => ⟨S32x131072, .f32⟩
  | 78 => ⟨S32x131072, .f32⟩
  | 79 => ⟨S32x131072, .f32⟩
  | 80 => ⟨S_, .f32⟩
  | 81 => ⟨S131072, .f32⟩
  | 82 => ⟨S131072, .f32⟩
  | 83 => ⟨S1x131072, .f32⟩
  | 84 => ⟨S32x131072, .f32⟩
  | 85 => ⟨S32x131072, .f32⟩
  | 86 => ⟨S1x131072, .f32⟩
  | 87 => ⟨S32x131072, .f32⟩
  | 88 => ⟨S32x131072, .f32⟩
  | 89 => ⟨S32x131072, .f32⟩
  | 90 => ⟨S1x131072, .f32⟩
  | 91 => ⟨S32x131072, .f32⟩
  | 92 => ⟨S32x131072, .f32⟩
  | 93 => ⟨S1x131072, .f32⟩
  | 94 => ⟨S32x131072, .f32⟩
  | 95 => ⟨S32x131072, .f32⟩
  | 96 => ⟨S32x131072, .f32⟩
  | 97 => ⟨S131072x32, .f32⟩
  | 98 => ⟨S131072x32, .f32⟩
  | 99 => ⟨S_, .i32⟩
  | 100 => ⟨S2, .i32⟩
  | 101 => ⟨S2, .i1⟩
  | 102 => ⟨S_, .i32⟩
  | 103 => ⟨S2, .i32⟩
  | 104 => ⟨S2, .i32⟩
  | 105 => ⟨S2, .i32⟩
  | 106 => ⟨S2x1, .i32⟩
  | 107 => ⟨S131072x2, .f32⟩
  | 108 => ⟨S131072x1, .f32⟩
  | 109 => ⟨S131072, .f32⟩
  | 110 => ⟨S_, .f32⟩
  | 111 => ⟨S131072, .f32⟩
  | 112 => ⟨S131072, .f32⟩
  | 113 => ⟨S_, .f32⟩
  | 114 => ⟨S131072, .f32⟩
  | 115 => ⟨S131072, .f32⟩
  | 116 => ⟨S_, .f32⟩
  | 117 => ⟨S131072, .f32⟩
  | 118 => ⟨S131072, .f32⟩
  | 119 => ⟨S131072x1, .f32⟩
  | 120 => ⟨S131072, .f32⟩
  | 121 => ⟨S_, .f32⟩
  | 122 => ⟨S131072, .f32⟩
  | 123 => ⟨S131072, .f32⟩
  | 124 => ⟨S_, .f32⟩
  | 125 => ⟨S131072, .f32⟩
  | 126 => ⟨S131072, .f32⟩
  | 127 => ⟨S_, .f32⟩
  | _ => ⟨S4096x32x3, .f32⟩

abbrev hbmTy0_33 (i : Nat) : BufTy := match i % 128 with
  | 0 => ⟨S131072, .f32⟩
  | 1 => ⟨S131072, .f32⟩
  | 2 => ⟨S131072, .f32⟩
  | 3 => ⟨S131072, .f32⟩
  | 4 => ⟨S131072, .f32⟩
  | 5 => ⟨S131072, .f32⟩
  | 6 => ⟨S131072, .i32⟩
  | 7 => ⟨S_, .i32⟩
  | 8 => ⟨S_, .i32⟩
  | 9 => ⟨S_, .i32⟩
  | 10 => ⟨S131072, .i32⟩
  | 11 => ⟨S131072, .i32⟩
  | 12 => ⟨S_, .i32⟩
  | 13 => ⟨S131072, .i32⟩
  | 14 => ⟨S131072, .i32⟩
  | 15 => ⟨S_, .i32⟩
  | 16 => ⟨S131072, .i32⟩
  | 17 => ⟨S131072, .i32⟩
  | 18 => ⟨S_, .i32⟩
  | 19 => ⟨S_, .i32⟩
  | 20 => ⟨S_, .i32⟩
  | 21 => ⟨S131072, .i32⟩
  | 22 => ⟨S131072, .i32⟩
  | 23 => ⟨S_, .i32⟩
  | 24 => ⟨S131072, .i32⟩
  | 25 => ⟨S131072, .i32⟩
  | 26 => ⟨S131072, .i32⟩
  | 27 => ⟨S_, .i32⟩
  | 28 => ⟨S_, .i32⟩
  | 29 => ⟨S_, .i32⟩
  | 30 => ⟨S131072, .i32⟩
  | 31 => ⟨S131072, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i32⟩
  | 38 => ⟨S_, .i32⟩
  | 39 => ⟨S_, .i32⟩
  | 40 => ⟨S_, .i32⟩
  | 41 => ⟨S131072, .i32⟩
  | 42 => ⟨S131072, .i32⟩
  | 43 => ⟨S_, .i32⟩
  | 44 => ⟨S131072, .i32⟩
  | 45 => ⟨S131072, .i32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x1, .i32⟩
  | 62 => ⟨S131072x2, .i32⟩
  | 63 => ⟨S32x131072, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S32x131072, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x1, .i32⟩
  | 98 => ⟨S131072x2, .i32⟩
  | 99 => ⟨S32x131072, .f32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S_, .i32⟩
  | 108 => ⟨S131072, .i32⟩
  | 109 => ⟨S131072, .i1⟩
  | 110 => ⟨S_, .i32⟩
  | 111 => ⟨S131072, .i32⟩
  | 112 => ⟨S131072, .i32⟩
  | 113 => ⟨S131072, .i32⟩
  | 114 => ⟨S131072x1, .i32⟩
  | 115 => ⟨S131072x1, .i32⟩
  | 116 => ⟨S131072x2, .i32⟩
  | 117 => ⟨S32x131072, .f32⟩
  | 118 => ⟨S_, .f32⟩
  | 119 => ⟨S131072, .f32⟩
  | 120 => ⟨S131072, .f32⟩
  | 121 => ⟨S1x131072, .f32⟩
  | 122 => ⟨S32x131072, .f32⟩
  | 123 => ⟨S32x131072, .f32⟩
  | 124 => ⟨S_, .f32⟩
  | 125 => ⟨S131072, .f32⟩
  | 126 => ⟨S131072, .f32⟩
  | 127 => ⟨S1x131072, .f32⟩
  | _ => ⟨S4096x32x3, .f32⟩

abbrev hbmTy0_34 (i : Nat) : BufTy := match i % 128 with
  | 0 => ⟨S32x131072, .f32⟩
  | 1 => ⟨S32x131072, .f32⟩
  | 2 => ⟨S1x131072, .f32⟩
  | 3 => ⟨S32x131072, .f32⟩
  | 4 => ⟨S32x131072, .f32⟩
  | 5 => ⟨S_, .f32⟩
  | 6 => ⟨S131072, .f32⟩
  | 7 => ⟨S131072, .f32⟩
  | 8 => ⟨S1x131072, .f32⟩
  | 9 => ⟨S32x131072, .f32⟩
  | 10 => ⟨S32x131072, .f32⟩
  | 11 => ⟨S32x131072, .f32⟩
  | 12 => ⟨S_, .f32⟩
  | 13 => ⟨S131072, .f32⟩
  | 14 => ⟨S131072, .f32⟩
  | 15 => ⟨S1x131072, .f32⟩
  | 16 => ⟨S32x131072, .f32⟩
  | 17 => ⟨S32x131072, .f32⟩
  | 18 => ⟨S1x131072, .f32⟩
  | 19 => ⟨S32x131072, .f32⟩
  | 20 => ⟨S32x131072, .f32⟩
  | 21 => ⟨S32x131072, .f32⟩
  | 22 => ⟨S1x131072, .f32⟩
  | 23 => ⟨S32x131072, .f32⟩
  | 24 => ⟨S32x131072, .f32⟩
  | 25 => ⟨S1x131072, .f32⟩
  | 26 => ⟨S32x131072, .f32⟩
  | 27 => ⟨S32x131072, .f32⟩
  | 28 => ⟨S32x131072, .f32⟩
  | 29 => ⟨S131072x32, .f32⟩
  | 30 => ⟨S131072x32, .f32⟩
  | 31 => ⟨S_, .i32⟩
  | 32 => ⟨S2, .i32⟩
  | 33 => ⟨S2, .i1⟩
  | 34 => ⟨S_, .i32⟩
  | 35 => ⟨S2, .i32⟩
  | 36 => ⟨S2, .i32⟩
  | 37 => ⟨S2, .i32⟩
  | 38 => ⟨S2x1, .i32⟩
  | 39 => ⟨S131072x2, .f32⟩
  | 40 => ⟨S131072x1, .f32⟩
  | 41 => ⟨S131072, .f32⟩
  | 42 => ⟨S_, .f32⟩
  | 43 => ⟨S131072, .f32⟩
  | 44 => ⟨S131072, .f32⟩
  | 45 => ⟨S_, .f32⟩
  | 46 => ⟨S131072, .f32⟩
  | 47 => ⟨S131072, .f32⟩
  | 48 => ⟨S_, .f32⟩
  | 49 => ⟨S131072, .f32⟩
  | 50 => ⟨S131072, .f32⟩
  | 51 => ⟨S131072x1, .f32⟩
  | 52 => ⟨S131072, .f32⟩
  | 53 => ⟨S_, .f32⟩
  | 54 => ⟨S131072, .f32⟩
  | 55 => ⟨S131072, .f32⟩
  | 56 => ⟨S_, .f32⟩
  | 57 => ⟨S131072, .f32⟩
  | 58 => ⟨S131072, .f32⟩
  | 59 => ⟨S_, .f32⟩
  | 60 => ⟨S131072, .f32⟩
  | 61 => ⟨S131072, .f32⟩
  | 62 => ⟨S131072, .f32⟩
  | 63 => ⟨S131072, .f32⟩
  | 64 => ⟨S131072, .f32⟩
  | 65 => ⟨S131072, .f32⟩
  | 66 => ⟨S131072, .i32⟩
  | 67 => ⟨S_, .i32⟩
  | 68 => ⟨S_, .i32⟩
  | 69 => ⟨S_, .i32⟩
  | 70 => ⟨S131072, .i32⟩
  | 71 => ⟨S131072, .i32⟩
  | 72 => ⟨S_, .i32⟩
  | 73 => ⟨S131072, .i32⟩
  | 74 => ⟨S131072, .i32⟩
  | 75 => ⟨S_, .i32⟩
  | 76 => ⟨S131072, .i32⟩
  | 77 => ⟨S131072, .i32⟩
  | 78 => ⟨S_, .i32⟩
  | 79 => ⟨S_, .i32⟩
  | 80 => ⟨S_, .i32⟩
  | 81 => ⟨S131072, .i32⟩
  | 82 => ⟨S131072, .i32⟩
  | 83 => ⟨S_, .i32⟩
  | 84 => ⟨S131072, .i32⟩
  | 85 => ⟨S131072, .i32⟩
  | 86 => ⟨S131072, .i32⟩
  | 87 => ⟨S_, .i32⟩
  | 88 => ⟨S_, .i32⟩
  | 89 => ⟨S_, .i32⟩
  | 90 => ⟨S131072, .i32⟩
  | 91 => ⟨S131072, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i32⟩
  | 98 => ⟨S_, .i32⟩
  | 99 => ⟨S_, .i32⟩
  | 100 => ⟨S_, .i32⟩
  | 101 => ⟨S131072, .i32⟩
  | 102 => ⟨S131072, .i32⟩
  | 103 => ⟨S_, .i32⟩
  | 104 => ⟨S131072, .i32⟩
  | 105 => ⟨S131072, .i32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x1, .i32⟩
  | 122 => ⟨S131072x2, .i32⟩
  | 123 => ⟨S32x131072, .f32⟩
  | 124 => ⟨S_, .i32⟩
  | 125 => ⟨S131072, .i32⟩
  | 126 => ⟨S131072, .i1⟩
  | 127 => ⟨S_, .i32⟩
  | _ => ⟨S4096x32x3, .f32⟩

abbrev hbmTy0_35 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x1, .i32⟩
  | 12 => ⟨S131072x2, .i32⟩
  | 13 => ⟨S32x131072, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S131072x1, .i32⟩
  | 30 => ⟨S131072x2, .i32⟩
  | 31 => ⟨S32x131072, .f32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S131072x1, .i32⟩
  | 48 => ⟨S131072x2, .i32⟩
  | 49 => ⟨S32x131072, .f32⟩
  | 50 => ⟨S_, .f32⟩
  | 51 => ⟨S131072, .f32⟩
  | 52 => ⟨S131072, .f32⟩
  | 53 => ⟨S1x131072, .f32⟩
  | 54 => ⟨S32x131072, .f32⟩
  | 55 => ⟨S32x131072, .f32⟩
  | 56 => ⟨S_, .f32⟩
  | 57 => ⟨S131072, .f32⟩
  | 58 => ⟨S131072, .f32⟩
  | 59 => ⟨S1x131072, .f32⟩
  | 60 => ⟨S32x131072, .f32⟩
  | 61 => ⟨S32x131072, .f32⟩
  | 62 => ⟨S1x131072, .f32⟩
  | 63 => ⟨S32x131072, .f32⟩
  | 64 => ⟨S32x131072, .f32⟩
  | 65 => ⟨S_, .f32⟩
  | 66 => ⟨S131072, .f32⟩
  | 67 => ⟨S131072, .f32⟩
  | 68 => ⟨S1x131072, .f32⟩
  | 69 => ⟨S32x131072, .f32⟩
  | 70 => ⟨S32x131072, .f32⟩
  | 71 => ⟨S32x131072, .f32⟩
  | 72 => ⟨S_, .f32⟩
  | 73 => ⟨S131072, .f32⟩
  | 74 => ⟨S131072, .f32⟩
  | 75 => ⟨S1x131072, .f32⟩
  | 76 => ⟨S32x131072, .f32⟩
  | 77 => ⟨S32x131072, .f32⟩
  | 78 => ⟨S1x131072, .f32⟩
  | 79 => ⟨S32x131072, .f32⟩
  | 80 => ⟨S32x131072, .f32⟩
  | 81 => ⟨S32x131072, .f32⟩
  | 82 => ⟨S1x131072, .f32⟩
  | 83 => ⟨S32x131072, .f32⟩
  | 84 => ⟨S32x131072, .f32⟩
  | 85 => ⟨S1x131072, .f32⟩
  | 86 => ⟨S32x131072, .f32⟩
  | 87 => ⟨S32x131072, .f32⟩
  | 88 => ⟨S32x131072, .f32⟩
  | 89 => ⟨S131072x32, .f32⟩
  | 90 => ⟨S131072x32, .f32⟩
  | 91 => ⟨S131072x128, .f32⟩
  | 92 => ⟨S131072x64, .f32⟩
  | 93 => ⟨S_, .f32⟩
  | 94 => ⟨S131072x64, .f32⟩
  | 95 => ⟨S131072x64, .f32⟩
  | 96 => ⟨S131072x16, .f32⟩
  | 97 => ⟨S131072x15, .f32⟩
  | 98 => ⟨S131072x1, .f32⟩
  | 99 => ⟨S131072x1, .f32⟩
  | 100 => ⟨S131072x16, .f32⟩
  | _ => ⟨S4096x32x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | _ => ⟨S4096x32x3, .f32⟩

abbrev bufTy : (tb : Table) → Fin (tcTables nBuf tb) → BufTy
  | .hbm, ⟨i, _⟩ => hbmTy i
  | _, _ => ⟨S4096x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_c_0 : Ref sig .tc := ⟨.hbm, 29, rfl⟩
abbrev main_c_1 : Ref sig .tc := ⟨.hbm, 30, rfl⟩
abbrev main_c_2 : Ref sig .tc := ⟨.hbm, 31, rfl⟩
abbrev main_c_3 : Ref sig .tc := ⟨.hbm, 32, rfl⟩
abbrev main_c_4 : Ref sig .tc := ⟨.hbm, 33, rfl⟩
abbrev main_c_5 : Ref sig .tc := ⟨.hbm, 34, rfl⟩
abbrev main_c_6 : Ref sig .tc := ⟨.hbm, 35, rfl⟩
abbrev main_c_7 : Ref sig .tc := ⟨.hbm, 36, rfl⟩
abbrev main_c_8 : Ref sig .tc := ⟨.hbm, 37, rfl⟩
abbrev main_c_9 : Ref sig .tc := ⟨.hbm, 38, rfl⟩
abbrev main_c_10 : Ref sig .tc := ⟨.hbm, 39, rfl⟩
abbrev main_c_11 : Ref sig .tc := ⟨.hbm, 40, rfl⟩
abbrev main_c_12 : Ref sig .tc := ⟨.hbm, 41, rfl⟩
abbrev main_c_13 : Ref sig .tc := ⟨.hbm, 42, rfl⟩
abbrev main_c_14 : Ref sig .tc := ⟨.hbm, 43, rfl⟩
abbrev main_c_15 : Ref sig .tc := ⟨.hbm, 44, rfl⟩
abbrev main_c_16 : Ref sig .tc := ⟨.hbm, 45, rfl⟩
abbrev main_c_17 : Ref sig .tc := ⟨.hbm, 46, rfl⟩
abbrev main_c_18 : Ref sig .tc := ⟨.hbm, 47, rfl⟩
abbrev main_c_19 : Ref sig .tc := ⟨.hbm, 48, rfl⟩
abbrev main_c_20 : Ref sig .tc := ⟨.hbm, 49, rfl⟩
abbrev main_c_21 : Ref sig .tc := ⟨.hbm, 50, rfl⟩
abbrev main_c_22 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_23 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_c_24 : Ref sig .tc := ⟨.hbm, 63, rfl⟩
abbrev main_v9 : Ref sig .tc := ⟨.hbm, 64, rfl⟩
abbrev main_v10 : Ref sig .tc := ⟨.hbm, 65, rfl⟩
abbrev main_c_25 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_26 : Ref sig .tc := ⟨.hbm, 74, rfl⟩
abbrev main_v18 : Ref sig .tc := ⟨.hbm, 75, rfl⟩
abbrev main_v19 : Ref sig .tc := ⟨.hbm, 76, rfl⟩
abbrev main_cst_27 : Ref sig .tc := ⟨.hbm, 77, rfl⟩
abbrev main_v20 : Ref sig .tc := ⟨.hbm, 78, rfl⟩
abbrev main_v21 : Ref sig .tc := ⟨.hbm, 79, rfl⟩
abbrev main_cst_28 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_29 : Ref sig .tc := ⟨.hbm, 85, rfl⟩
abbrev main_v26 : Ref sig .tc := ⟨.hbm, 86, rfl⟩
abbrev main_v27 : Ref sig .tc := ⟨.hbm, 87, rfl⟩
abbrev main_cst_30 : Ref sig .tc := ⟨.hbm, 88, rfl⟩
abbrev main_v28 : Ref sig .tc := ⟨.hbm, 89, rfl⟩
abbrev main_v29 : Ref sig .tc := ⟨.hbm, 90, rfl⟩
abbrev main_cst_31 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_c_32 : Ref sig .tc := ⟨.hbm, 99, rfl⟩
abbrev main_c_33 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_v37 : Ref sig .tc := ⟨.hbm, 106, rfl⟩
abbrev main_c_34 : Ref sig .tc := ⟨.hbm, 107, rfl⟩
abbrev main_v38 : Ref sig .tc := ⟨.hbm, 108, rfl⟩
abbrev main_v39 : Ref sig .tc := ⟨.hbm, 109, rfl⟩
abbrev main_c_35 : Ref sig .tc := ⟨.hbm, 110, rfl⟩
abbrev main_c_36 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_v40 : Ref sig .tc := ⟨.hbm, 117, rfl⟩
abbrev main_v41 : Ref sig .tc := ⟨.hbm, 118, rfl⟩
abbrev main_c_37 : Ref sig .tc := ⟨.hbm, 119, rfl⟩
abbrev main_c_38 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v42 : Ref sig .tc := ⟨.hbm, 126, rfl⟩
abbrev main_c_39 : Ref sig .tc := ⟨.hbm, 127, rfl⟩
abbrev main_v43 : Ref sig .tc := ⟨.hbm, 128, rfl⟩
abbrev main_v44 : Ref sig .tc := ⟨.hbm, 129, rfl⟩
abbrev main_c_40 : Ref sig .tc := ⟨.hbm, 130, rfl⟩
abbrev main_c_41 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v45 : Ref sig .tc := ⟨.hbm, 137, rfl⟩
abbrev main_c_42 : Ref sig .tc := ⟨.hbm, 138, rfl⟩
abbrev main_v46 : Ref sig .tc := ⟨.hbm, 139, rfl⟩
abbrev main_v47 : Ref sig .tc := ⟨.hbm, 140, rfl⟩
abbrev main_c_43 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_c_44 : Ref sig .tc := ⟨.hbm, 145, rfl⟩
abbrev main_v51 : Ref sig .tc := ⟨.hbm, 146, rfl⟩
abbrev main_v52 : Ref sig .tc := ⟨.hbm, 147, rfl⟩
abbrev main_c_45 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_c_46 : Ref sig .tc := ⟨.hbm, 156, rfl⟩
abbrev main_v60 : Ref sig .tc := ⟨.hbm, 157, rfl⟩
abbrev main_v61 : Ref sig .tc := ⟨.hbm, 158, rfl⟩
abbrev main_c_47 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_c_48 : Ref sig .tc := ⟨.hbm, 163, rfl⟩
abbrev main_v65 : Ref sig .tc := ⟨.hbm, 164, rfl⟩
abbrev main_v66 : Ref sig .tc := ⟨.hbm, 165, rfl⟩
abbrev main_c_49 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_c_50 : Ref sig .tc := ⟨.hbm, 174, rfl⟩
abbrev main_v74 : Ref sig .tc := ⟨.hbm, 175, rfl⟩
abbrev main_v75 : Ref sig .tc := ⟨.hbm, 176, rfl⟩
abbrev main_c_51 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_c_52 : Ref sig .tc := ⟨.hbm, 181, rfl⟩
abbrev main_v79 : Ref sig .tc := ⟨.hbm, 182, rfl⟩
abbrev main_v80 : Ref sig .tc := ⟨.hbm, 183, rfl⟩
abbrev main_c_53 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_c_54 : Ref sig .tc := ⟨.hbm, 192, rfl⟩
abbrev main_v88 : Ref sig .tc := ⟨.hbm, 193, rfl⟩
abbrev main_v89 : Ref sig .tc := ⟨.hbm, 194, rfl⟩
abbrev main_c_55 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_c_56 : Ref sig .tc := ⟨.hbm, 199, rfl⟩
abbrev main_v93 : Ref sig .tc := ⟨.hbm, 200, rfl⟩
abbrev main_v94 : Ref sig .tc := ⟨.hbm, 201, rfl⟩
abbrev main_c_57 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_cst_58 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_cst_59 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_cst_60 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_cst_61 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_c_62 : Ref sig .tc := ⟨.hbm, 250, rfl⟩
abbrev main_v138 : Ref sig .tc := ⟨.hbm, 251, rfl⟩
abbrev main_v139 : Ref sig .tc := ⟨.hbm, 252, rfl⟩
abbrev main_c_63 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_cst_64 : Ref sig .tc := ⟨.hbm, 261, rfl⟩
abbrev main_v147 : Ref sig .tc := ⟨.hbm, 262, rfl⟩
abbrev main_v148 : Ref sig .tc := ⟨.hbm, 263, rfl⟩
abbrev main_cst_65 : Ref sig .tc := ⟨.hbm, 264, rfl⟩
abbrev main_v149 : Ref sig .tc := ⟨.hbm, 265, rfl⟩
abbrev main_v150 : Ref sig .tc := ⟨.hbm, 266, rfl⟩
abbrev main_cst_66 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_cst_67 : Ref sig .tc := ⟨.hbm, 272, rfl⟩
abbrev main_v155 : Ref sig .tc := ⟨.hbm, 273, rfl⟩
abbrev main_v156 : Ref sig .tc := ⟨.hbm, 274, rfl⟩
abbrev main_cst_68 : Ref sig .tc := ⟨.hbm, 275, rfl⟩
abbrev main_v157 : Ref sig .tc := ⟨.hbm, 276, rfl⟩
abbrev main_v158 : Ref sig .tc := ⟨.hbm, 277, rfl⟩
abbrev main_cst_69 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_c_70 : Ref sig .tc := ⟨.hbm, 286, rfl⟩
abbrev main_c_71 : Ref sig .tc := ⟨.hbm, 287, rfl⟩
abbrev main_call4_v0 : Ref sig .tc := ⟨.hbm, 288, rfl⟩
abbrev main_call4_v1 : Ref sig .tc := ⟨.hbm, 289, rfl⟩
abbrev main_call4_v2 : Ref sig .tc := ⟨.hbm, 290, rfl⟩
abbrev main_call4_v3 : Ref sig .tc := ⟨.hbm, 291, rfl⟩
abbrev main_call4_v4 : Ref sig .tc := ⟨.hbm, 292, rfl⟩
abbrev main_v166 : Ref sig .tc := ⟨.hbm, 293, rfl⟩
abbrev main_c_72 : Ref sig .tc := ⟨.hbm, 294, rfl⟩
abbrev main_v167 : Ref sig .tc := ⟨.hbm, 295, rfl⟩
abbrev main_v168 : Ref sig .tc := ⟨.hbm, 296, rfl⟩
abbrev main_c_73 : Ref sig .tc := ⟨.hbm, 297, rfl⟩
abbrev main_c_74 : Ref sig .tc := ⟨.hbm, 298, rfl⟩
abbrev main_call5_v0 : Ref sig .tc := ⟨.hbm, 299, rfl⟩
abbrev main_call5_v1 : Ref sig .tc := ⟨.hbm, 300, rfl⟩
abbrev main_call5_v2 : Ref sig .tc := ⟨.hbm, 301, rfl⟩
abbrev main_call5_v3 : Ref sig .tc := ⟨.hbm, 302, rfl⟩
abbrev main_call5_v4 : Ref sig .tc := ⟨.hbm, 303, rfl⟩
abbrev main_v169 : Ref sig .tc := ⟨.hbm, 304, rfl⟩
abbrev main_v170 : Ref sig .tc := ⟨.hbm, 305, rfl⟩
abbrev main_c_75 : Ref sig .tc := ⟨.hbm, 306, rfl⟩
abbrev main_c_76 : Ref sig .tc := ⟨.hbm, 307, rfl⟩
abbrev main_call6_v0 : Ref sig .tc := ⟨.hbm, 308, rfl⟩
abbrev main_call6_v1 : Ref sig .tc := ⟨.hbm, 309, rfl⟩
abbrev main_call6_v2 : Ref sig .tc := ⟨.hbm, 310, rfl⟩
abbrev main_call6_v3 : Ref sig .tc := ⟨.hbm, 311, rfl⟩
abbrev main_call6_v4 : Ref sig .tc := ⟨.hbm, 312, rfl⟩
abbrev main_v171 : Ref sig .tc := ⟨.hbm, 313, rfl⟩
abbrev main_c_77 : Ref sig .tc := ⟨.hbm, 314, rfl⟩
abbrev main_v172 : Ref sig .tc := ⟨.hbm, 315, rfl⟩
abbrev main_v173 : Ref sig .tc := ⟨.hbm, 316, rfl⟩
abbrev main_c_78 : Ref sig .tc := ⟨.hbm, 317, rfl⟩
abbrev main_c_79 : Ref sig .tc := ⟨.hbm, 318, rfl⟩
abbrev main_call7_v0 : Ref sig .tc := ⟨.hbm, 319, rfl⟩
abbrev main_call7_v1 : Ref sig .tc := ⟨.hbm, 320, rfl⟩
abbrev main_call7_v2 : Ref sig .tc := ⟨.hbm, 321, rfl⟩
abbrev main_call7_v3 : Ref sig .tc := ⟨.hbm, 322, rfl⟩
abbrev main_call7_v4 : Ref sig .tc := ⟨.hbm, 323, rfl⟩
abbrev main_v174 : Ref sig .tc := ⟨.hbm, 324, rfl⟩
abbrev main_c_80 : Ref sig .tc := ⟨.hbm, 325, rfl⟩
abbrev main_v175 : Ref sig .tc := ⟨.hbm, 326, rfl⟩
abbrev main_v176 : Ref sig .tc := ⟨.hbm, 327, rfl⟩
abbrev main_c_81 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_c_82 : Ref sig .tc := ⟨.hbm, 332, rfl⟩
abbrev main_v180 : Ref sig .tc := ⟨.hbm, 333, rfl⟩
abbrev main_v181 : Ref sig .tc := ⟨.hbm, 334, rfl⟩
abbrev main_c_83 : Ref sig .tc := ⟨.hbm, 335, rfl⟩
abbrev main_v182 : Ref sig .tc := ⟨.hbm, 336, rfl⟩
abbrev main_v183 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_v188 : Ref sig .tc := ⟨.hbm, 342, rfl⟩
abbrev main_c_84 : Ref sig .tc := ⟨.hbm, 343, rfl⟩
abbrev main_v189 : Ref sig .tc := ⟨.hbm, 344, rfl⟩
abbrev main_v190 : Ref sig .tc := ⟨.hbm, 345, rfl⟩
abbrev main_c_85 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_c_86 : Ref sig .tc := ⟨.hbm, 350, rfl⟩
abbrev main_v194 : Ref sig .tc := ⟨.hbm, 351, rfl⟩
abbrev main_v195 : Ref sig .tc := ⟨.hbm, 352, rfl⟩
abbrev main_c_87 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_c_88 : Ref sig .tc := ⟨.hbm, 361, rfl⟩
abbrev main_v203 : Ref sig .tc := ⟨.hbm, 362, rfl⟩
abbrev main_v204 : Ref sig .tc := ⟨.hbm, 363, rfl⟩
abbrev main_c_89 : Ref sig .tc := ⟨.hbm, 364, rfl⟩
abbrev main_v205 : Ref sig .tc := ⟨.hbm, 365, rfl⟩
abbrev main_v206 : Ref sig .tc := ⟨.hbm, 366, rfl⟩
abbrev main_v207 : Ref sig .tc := ⟨.hbm, 367, rfl⟩
abbrev main_c_90 : Ref sig .tc := ⟨.hbm, 368, rfl⟩
abbrev main_v208 : Ref sig .tc := ⟨.hbm, 369, rfl⟩
abbrev main_v209 : Ref sig .tc := ⟨.hbm, 370, rfl⟩
abbrev main_c_91 : Ref sig .tc := ⟨.hbm, 371, rfl⟩
abbrev main_v210 : Ref sig .tc := ⟨.hbm, 372, rfl⟩
abbrev main_v211 : Ref sig .tc := ⟨.hbm, 373, rfl⟩
abbrev main_v212 : Ref sig .tc := ⟨.hbm, 374, rfl⟩
abbrev main_v213 : Ref sig .tc := ⟨.hbm, 375, rfl⟩
abbrev main_v214 : Ref sig .tc := ⟨.hbm, 376, rfl⟩
abbrev main_v215 : Ref sig .tc := ⟨.hbm, 377, rfl⟩
abbrev main_v216 : Ref sig .tc := ⟨.hbm, 378, rfl⟩
abbrev main_c_92 : Ref sig .tc := ⟨.hbm, 379, rfl⟩
abbrev main_v217 : Ref sig .tc := ⟨.hbm, 380, rfl⟩
abbrev main_v218 : Ref sig .tc := ⟨.hbm, 381, rfl⟩
abbrev main_c_93 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_c_94 : Ref sig .tc := ⟨.hbm, 386, rfl⟩
abbrev main_v222 : Ref sig .tc := ⟨.hbm, 387, rfl⟩
abbrev main_v223 : Ref sig .tc := ⟨.hbm, 388, rfl⟩
abbrev main_c_95 : Ref sig .tc := ⟨.hbm, 389, rfl⟩
abbrev main_v224 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_v230 : Ref sig .tc := ⟨.hbm, 396, rfl⟩
abbrev main_cst_96 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_cst_97 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_v243 : Ref sig .tc := ⟨.hbm, 411, rfl⟩
abbrev main_cst_98 : Ref sig .tc := ⟨.hbm, 412, rfl⟩
abbrev main_v244 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_v248 : Ref sig .tc := ⟨.hbm, 417, rfl⟩
abbrev main_v249 : Ref sig .tc := ⟨.hbm, 418, rfl⟩
abbrev main_cst_99 : Ref sig .tc := ⟨.hbm, 419, rfl⟩
abbrev main_v250 : Ref sig .tc := ⟨.hbm, 420, rfl⟩
abbrev main_v251 : Ref sig .tc := ⟨.hbm, 421, rfl⟩
abbrev main_v252 : Ref sig .tc := ⟨.hbm, 422, rfl⟩
abbrev main_v253 : Ref sig .tc := ⟨.hbm, 423, rfl⟩
abbrev main_v254 : Ref sig .tc := ⟨.hbm, 424, rfl⟩
abbrev main_v255 : Ref sig .tc := ⟨.hbm, 425, rfl⟩
abbrev main_v256 : Ref sig .tc := ⟨.hbm, 426, rfl⟩
abbrev main_v257 : Ref sig .tc := ⟨.hbm, 427, rfl⟩
abbrev main_v258 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_v267 : Ref sig .tc := ⟨.hbm, 437, rfl⟩
abbrev main_c_100 : Ref sig .tc := ⟨.hbm, 438, rfl⟩
abbrev main_v268 : Ref sig .tc := ⟨.hbm, 439, rfl⟩
abbrev main_v269 : Ref sig .tc := ⟨.hbm, 440, rfl⟩
abbrev main_c_101 : Ref sig .tc := ⟨.hbm, 441, rfl⟩
abbrev main_v270 : Ref sig .tc := ⟨.hbm, 442, rfl⟩
abbrev main_v271 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_v276 : Ref sig .tc := ⟨.hbm, 448, rfl⟩
abbrev main_cst_102 : Ref sig .tc := ⟨.hbm, 449, rfl⟩
abbrev main_v277 : Ref sig .tc := ⟨.hbm, 450, rfl⟩
abbrev main_v278 : Ref sig .tc := ⟨.hbm, 451, rfl⟩
abbrev main_cst_103 : Ref sig .tc := ⟨.hbm, 452, rfl⟩
abbrev main_v279 : Ref sig .tc := ⟨.hbm, 453, rfl⟩
abbrev main_v280 : Ref sig .tc := ⟨.hbm, 454, rfl⟩
abbrev main_cst_104 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_v284 : Ref sig .tc := ⟨.hbm, 459, rfl⟩
abbrev main_cst_105 : Ref sig .tc := ⟨.hbm, 460, rfl⟩
abbrev main_v285 : Ref sig .tc := ⟨.hbm, 461, rfl⟩
abbrev main_v286 : Ref sig .tc := ⟨.hbm, 462, rfl⟩
abbrev main_cst_106 : Ref sig .tc := ⟨.hbm, 463, rfl⟩
abbrev main_v287 : Ref sig .tc := ⟨.hbm, 464, rfl⟩
abbrev main_v288 : Ref sig .tc := ⟨.hbm, 465, rfl⟩
abbrev main_cst_107 : Ref sig .tc := ⟨.hbm, 466, rfl⟩
abbrev main_v289 : Ref sig .tc := ⟨.hbm, 467, rfl⟩
abbrev main_v290 : Ref sig .tc := ⟨.hbm, 468, rfl⟩
abbrev main_v291 : Ref sig .tc := ⟨.hbm, 469, rfl⟩
abbrev main_v292 : Ref sig .tc := ⟨.hbm, 470, rfl⟩
abbrev main_v293 : Ref sig .tc := ⟨.hbm, 471, rfl⟩
abbrev main_v294 : Ref sig .tc := ⟨.hbm, 472, rfl⟩
abbrev main_v295 : Ref sig .tc := ⟨.hbm, 473, rfl⟩
abbrev main_c_108 : Ref sig .tc := ⟨.hbm, 474, rfl⟩
abbrev main_c_109 : Ref sig .tc := ⟨.hbm, 475, rfl⟩
abbrev main_call8_v0 : Ref sig .tc := ⟨.hbm, 476, rfl⟩
abbrev main_call8_v1 : Ref sig .tc := ⟨.hbm, 477, rfl⟩
abbrev main_call8_v2 : Ref sig .tc := ⟨.hbm, 478, rfl⟩
abbrev main_call8_v3 : Ref sig .tc := ⟨.hbm, 479, rfl⟩
abbrev main_call8_v4 : Ref sig .tc := ⟨.hbm, 480, rfl⟩
abbrev main_v296 : Ref sig .tc := ⟨.hbm, 481, rfl⟩
abbrev main_c_110 : Ref sig .tc := ⟨.hbm, 482, rfl⟩
abbrev main_v297 : Ref sig .tc := ⟨.hbm, 483, rfl⟩
abbrev main_v298 : Ref sig .tc := ⟨.hbm, 484, rfl⟩
abbrev main_c_111 : Ref sig .tc := ⟨.hbm, 485, rfl⟩
abbrev main_c_112 : Ref sig .tc := ⟨.hbm, 486, rfl⟩
abbrev main_call9_v0 : Ref sig .tc := ⟨.hbm, 487, rfl⟩
abbrev main_call9_v1 : Ref sig .tc := ⟨.hbm, 488, rfl⟩
abbrev main_call9_v2 : Ref sig .tc := ⟨.hbm, 489, rfl⟩
abbrev main_call9_v3 : Ref sig .tc := ⟨.hbm, 490, rfl⟩
abbrev main_call9_v4 : Ref sig .tc := ⟨.hbm, 491, rfl⟩
abbrev main_v299 : Ref sig .tc := ⟨.hbm, 492, rfl⟩
abbrev main_v300 : Ref sig .tc := ⟨.hbm, 493, rfl⟩
abbrev main_c_113 : Ref sig .tc := ⟨.hbm, 494, rfl⟩
abbrev main_c_114 : Ref sig .tc := ⟨.hbm, 495, rfl⟩
abbrev main_call10_v0 : Ref sig .tc := ⟨.hbm, 496, rfl⟩
abbrev main_call10_v1 : Ref sig .tc := ⟨.hbm, 497, rfl⟩
abbrev main_call10_v2 : Ref sig .tc := ⟨.hbm, 498, rfl⟩
abbrev main_call10_v3 : Ref sig .tc := ⟨.hbm, 499, rfl⟩
abbrev main_call10_v4 : Ref sig .tc := ⟨.hbm, 500, rfl⟩
abbrev main_v301 : Ref sig .tc := ⟨.hbm, 501, rfl⟩
abbrev main_c_115 : Ref sig .tc := ⟨.hbm, 502, rfl⟩
abbrev main_v302 : Ref sig .tc := ⟨.hbm, 503, rfl⟩
abbrev main_v303 : Ref sig .tc := ⟨.hbm, 504, rfl⟩
abbrev main_c_116 : Ref sig .tc := ⟨.hbm, 505, rfl⟩
abbrev main_c_117 : Ref sig .tc := ⟨.hbm, 506, rfl⟩
abbrev main_call11_v0 : Ref sig .tc := ⟨.hbm, 507, rfl⟩
abbrev main_call11_v1 : Ref sig .tc := ⟨.hbm, 508, rfl⟩
abbrev main_call11_v2 : Ref sig .tc := ⟨.hbm, 509, rfl⟩
abbrev main_call11_v3 : Ref sig .tc := ⟨.hbm, 510, rfl⟩
abbrev main_call11_v4 : Ref sig .tc := ⟨.hbm, 511, rfl⟩
abbrev main_v304 : Ref sig .tc := ⟨.hbm, 512, rfl⟩
abbrev main_c_118 : Ref sig .tc := ⟨.hbm, 513, rfl⟩
abbrev main_v305 : Ref sig .tc := ⟨.hbm, 514, rfl⟩
abbrev main_v306 : Ref sig .tc := ⟨.hbm, 515, rfl⟩
abbrev main_c_119 : Ref sig .tc := ⟨.hbm, 516, rfl⟩
abbrev main_v307 : Ref sig .tc := ⟨.hbm, 517, rfl⟩
abbrev main_v308 : Ref sig .tc := ⟨.hbm, 518, rfl⟩
abbrev main_v309 : Ref sig .tc := ⟨.hbm, 519, rfl⟩
abbrev main_c_120 : Ref sig .tc := ⟨.hbm, 520, rfl⟩
abbrev main_v310 : Ref sig .tc := ⟨.hbm, 521, rfl⟩
abbrev main_v311 : Ref sig .tc := ⟨.hbm, 522, rfl⟩
abbrev main_c_121 : Ref sig .tc := ⟨.hbm, 523, rfl⟩
abbrev main_v312 : Ref sig .tc := ⟨.hbm, 524, rfl⟩
abbrev main_v313 : Ref sig .tc := ⟨.hbm, 525, rfl⟩
abbrev main_v314 : Ref sig .tc := ⟨.hbm, 526, rfl⟩
abbrev main_v315 : Ref sig .tc := ⟨.hbm, 527, rfl⟩
abbrev main_v316 : Ref sig .tc := ⟨.hbm, 528, rfl⟩
abbrev main_v317 : Ref sig .tc := ⟨.hbm, 529, rfl⟩
abbrev main_v318 : Ref sig .tc := ⟨.hbm, 530, rfl⟩
abbrev main_c_122 : Ref sig .tc := ⟨.hbm, 531, rfl⟩
abbrev main_v319 : Ref sig .tc := ⟨.hbm, 532, rfl⟩
abbrev main_v320 : Ref sig .tc := ⟨.hbm, 533, rfl⟩
abbrev main_c_123 : Ref sig .tc := ⟨.hbm, 534, rfl⟩
abbrev main_v321 : Ref sig .tc := ⟨.hbm, 535, rfl⟩
abbrev main_v322 : Ref sig .tc := ⟨.hbm, 536, rfl⟩
abbrev main_v323 : Ref sig .tc := ⟨.hbm, 537, rfl⟩
abbrev main_c_124 : Ref sig .tc := ⟨.hbm, 538, rfl⟩
abbrev main_v324 : Ref sig .tc := ⟨.hbm, 539, rfl⟩
abbrev main_v325 : Ref sig .tc := ⟨.hbm, 540, rfl⟩
abbrev main_c_125 : Ref sig .tc := ⟨.hbm, 541, rfl⟩
abbrev main_v326 : Ref sig .tc := ⟨.hbm, 542, rfl⟩
abbrev main_v327 : Ref sig .tc := ⟨.hbm, 543, rfl⟩
abbrev main_v328 : Ref sig .tc := ⟨.hbm, 544, rfl⟩
abbrev main_v329 : Ref sig .tc := ⟨.hbm, 545, rfl⟩
abbrev main_v330 : Ref sig .tc := ⟨.hbm, 546, rfl⟩
abbrev main_v331 : Ref sig .tc := ⟨.hbm, 547, rfl⟩
abbrev main_v332 : Ref sig .tc := ⟨.hbm, 548, rfl⟩
abbrev main_c_126 : Ref sig .tc := ⟨.hbm, 549, rfl⟩
abbrev main_v333 : Ref sig .tc := ⟨.hbm, 550, rfl⟩
abbrev main_v334 : Ref sig .tc := ⟨.hbm, 551, rfl⟩
abbrev main_c_127 : Ref sig .tc := ⟨.hbm, 552, rfl⟩
abbrev main_v335 : Ref sig .tc := ⟨.hbm, 553, rfl⟩
abbrev main_v336 : Ref sig .tc := ⟨.hbm, 554, rfl⟩
abbrev main_v337 : Ref sig .tc := ⟨.hbm, 555, rfl⟩
abbrev main_c_128 : Ref sig .tc := ⟨.hbm, 556, rfl⟩
abbrev main_v338 : Ref sig .tc := ⟨.hbm, 557, rfl⟩
abbrev main_v339 : Ref sig .tc := ⟨.hbm, 558, rfl⟩
abbrev main_c_129 : Ref sig .tc := ⟨.hbm, 559, rfl⟩
abbrev main_v340 : Ref sig .tc := ⟨.hbm, 560, rfl⟩
abbrev main_v341 : Ref sig .tc := ⟨.hbm, 561, rfl⟩
abbrev main_v342 : Ref sig .tc := ⟨.hbm, 562, rfl⟩
abbrev main_v343 : Ref sig .tc := ⟨.hbm, 563, rfl⟩
abbrev main_v344 : Ref sig .tc := ⟨.hbm, 564, rfl⟩
abbrev main_v345 : Ref sig .tc := ⟨.hbm, 565, rfl⟩
abbrev main_v346 : Ref sig .tc := ⟨.hbm, 566, rfl⟩
abbrev main_c_130 : Ref sig .tc := ⟨.hbm, 567, rfl⟩
abbrev main_v347 : Ref sig .tc := ⟨.hbm, 568, rfl⟩
abbrev main_v348 : Ref sig .tc := ⟨.hbm, 569, rfl⟩
abbrev main_c_131 : Ref sig .tc := ⟨.hbm, 570, rfl⟩
abbrev main_v349 : Ref sig .tc := ⟨.hbm, 571, rfl⟩
abbrev main_v350 : Ref sig .tc := ⟨.hbm, 572, rfl⟩
abbrev main_v351 : Ref sig .tc := ⟨.hbm, 573, rfl⟩
abbrev main_c_132 : Ref sig .tc := ⟨.hbm, 574, rfl⟩
abbrev main_v352 : Ref sig .tc := ⟨.hbm, 575, rfl⟩
abbrev main_v353 : Ref sig .tc := ⟨.hbm, 576, rfl⟩
abbrev main_c_133 : Ref sig .tc := ⟨.hbm, 577, rfl⟩
abbrev main_v354 : Ref sig .tc := ⟨.hbm, 578, rfl⟩
abbrev main_v355 : Ref sig .tc := ⟨.hbm, 579, rfl⟩
abbrev main_v356 : Ref sig .tc := ⟨.hbm, 580, rfl⟩
abbrev main_v357 : Ref sig .tc := ⟨.hbm, 581, rfl⟩
abbrev main_v358 : Ref sig .tc := ⟨.hbm, 582, rfl⟩
abbrev main_v359 : Ref sig .tc := ⟨.hbm, 583, rfl⟩
abbrev main_v360 : Ref sig .tc := ⟨.hbm, 584, rfl⟩
abbrev main_cst_134 : Ref sig .tc := ⟨.hbm, 585, rfl⟩
abbrev main_v361 : Ref sig .tc := ⟨.hbm, 586, rfl⟩
abbrev main_v362 : Ref sig .tc := ⟨.hbm, 587, rfl⟩
abbrev main_v363 : Ref sig .tc := ⟨.hbm, 588, rfl⟩
abbrev main_v364 : Ref sig .tc := ⟨.hbm, 589, rfl⟩
abbrev main_v365 : Ref sig .tc := ⟨.hbm, 590, rfl⟩
abbrev main_cst_135 : Ref sig .tc := ⟨.hbm, 591, rfl⟩
abbrev main_v366 : Ref sig .tc := ⟨.hbm, 592, rfl⟩
abbrev main_v367 : Ref sig .tc := ⟨.hbm, 593, rfl⟩
abbrev main_v368 : Ref sig .tc := ⟨.hbm, 594, rfl⟩
abbrev main_v369 : Ref sig .tc := ⟨.hbm, 595, rfl⟩
abbrev main_v370 : Ref sig .tc := ⟨.hbm, 596, rfl⟩
abbrev main_v371 : Ref sig .tc := ⟨.hbm, 597, rfl⟩
abbrev main_v372 : Ref sig .tc := ⟨.hbm, 598, rfl⟩
abbrev main_v373 : Ref sig .tc := ⟨.hbm, 599, rfl⟩
abbrev main_cst_136 : Ref sig .tc := ⟨.hbm, 600, rfl⟩
abbrev main_v374 : Ref sig .tc := ⟨.hbm, 601, rfl⟩
abbrev main_v375 : Ref sig .tc := ⟨.hbm, 602, rfl⟩
abbrev main_v376 : Ref sig .tc := ⟨.hbm, 603, rfl⟩
abbrev main_v377 : Ref sig .tc := ⟨.hbm, 604, rfl⟩
abbrev main_v378 : Ref sig .tc := ⟨.hbm, 605, rfl⟩
abbrev main_v379 : Ref sig .tc := ⟨.hbm, 606, rfl⟩
abbrev main_cst_137 : Ref sig .tc := ⟨.hbm, 607, rfl⟩
abbrev main_v380 : Ref sig .tc := ⟨.hbm, 608, rfl⟩
abbrev main_v381 : Ref sig .tc := ⟨.hbm, 609, rfl⟩
abbrev main_v382 : Ref sig .tc := ⟨.hbm, 610, rfl⟩
abbrev main_v383 : Ref sig .tc := ⟨.hbm, 611, rfl⟩
abbrev main_v384 : Ref sig .tc := ⟨.hbm, 612, rfl⟩
abbrev main_v385 : Ref sig .tc := ⟨.hbm, 613, rfl⟩
abbrev main_v386 : Ref sig .tc := ⟨.hbm, 614, rfl⟩
abbrev main_v387 : Ref sig .tc := ⟨.hbm, 615, rfl⟩
abbrev main_v388 : Ref sig .tc := ⟨.hbm, 616, rfl⟩
abbrev main_v389 : Ref sig .tc := ⟨.hbm, 617, rfl⟩
abbrev main_v390 : Ref sig .tc := ⟨.hbm, 618, rfl⟩
abbrev main_v391 : Ref sig .tc := ⟨.hbm, 619, rfl⟩
abbrev main_v392 : Ref sig .tc := ⟨.hbm, 620, rfl⟩
abbrev main_v393 : Ref sig .tc := ⟨.hbm, 621, rfl⟩
abbrev main_v394 : Ref sig .tc := ⟨.hbm, 622, rfl⟩
abbrev main_v395 : Ref sig .tc := ⟨.hbm, 623, rfl⟩
abbrev main_v396 : Ref sig .tc := ⟨.hbm, 624, rfl⟩
abbrev main_v397 : Ref sig .tc := ⟨.hbm, 625, rfl⟩
abbrev main_c_138 : Ref sig .tc := ⟨.hbm, 626, rfl⟩
abbrev main_v398 : Ref sig .tc := ⟨.hbm, 627, rfl⟩
abbrev main_v399 : Ref sig .tc := ⟨.hbm, 628, rfl⟩
abbrev main_c_139 : Ref sig .tc := ⟨.hbm, 629, rfl⟩
abbrev main_v400 : Ref sig .tc := ⟨.hbm, 630, rfl⟩
abbrev main_v401 : Ref sig .tc := ⟨.hbm, 631, rfl⟩
abbrev main_v402 : Ref sig .tc := ⟨.hbm, 632, rfl⟩
abbrev main_v403 : Ref sig .tc := ⟨.hbm, 633, rfl⟩
abbrev main_v404 : Ref sig .tc := ⟨.hbm, 634, rfl⟩
abbrev main_v405 : Ref sig .tc := ⟨.hbm, 635, rfl⟩
abbrev main_v406 : Ref sig .tc := ⟨.hbm, 636, rfl⟩
abbrev main_cst_140 : Ref sig .tc := ⟨.hbm, 637, rfl⟩
abbrev main_v407 : Ref sig .tc := ⟨.hbm, 638, rfl⟩
abbrev main_v408 : Ref sig .tc := ⟨.hbm, 639, rfl⟩
abbrev main_cst_141 : Ref sig .tc := ⟨.hbm, 640, rfl⟩
abbrev main_v409 : Ref sig .tc := ⟨.hbm, 641, rfl⟩
abbrev main_v410 : Ref sig .tc := ⟨.hbm, 642, rfl⟩
abbrev main_cst_142 : Ref sig .tc := ⟨.hbm, 643, rfl⟩
abbrev main_v411 : Ref sig .tc := ⟨.hbm, 644, rfl⟩
abbrev main_v412 : Ref sig .tc := ⟨.hbm, 645, rfl⟩
abbrev main_v413 : Ref sig .tc := ⟨.hbm, 646, rfl⟩
abbrev main_v414 : Ref sig .tc := ⟨.hbm, 647, rfl⟩
abbrev main_cst_143 : Ref sig .tc := ⟨.hbm, 648, rfl⟩
abbrev main_v415 : Ref sig .tc := ⟨.hbm, 649, rfl⟩
abbrev main_v416 : Ref sig .tc := ⟨.hbm, 650, rfl⟩
abbrev main_cst_144 : Ref sig .tc := ⟨.hbm, 651, rfl⟩
abbrev main_v417 : Ref sig .tc := ⟨.hbm, 652, rfl⟩
abbrev main_v418 : Ref sig .tc := ⟨.hbm, 653, rfl⟩
abbrev main_cst_145 : Ref sig .tc := ⟨.hbm, 654, rfl⟩
abbrev main_v419 : Ref sig .tc := ⟨.hbm, 655, rfl⟩
abbrev main_v420 : Ref sig .tc := ⟨.hbm, 656, rfl⟩
abbrev main_v421 : Ref sig .tc := ⟨.hbm, 657, rfl⟩
abbrev main_v422 : Ref sig .tc := ⟨.hbm, 658, rfl⟩
abbrev main_v423 : Ref sig .tc := ⟨.hbm, 659, rfl⟩
abbrev main_v424 : Ref sig .tc := ⟨.hbm, 660, rfl⟩
abbrev main_v425 : Ref sig .tc := ⟨.hbm, 661, rfl⟩
abbrev main_c_146 : Ref sig .tc := ⟨.hbm, 662, rfl⟩
abbrev main_c_147 : Ref sig .tc := ⟨.hbm, 663, rfl⟩
abbrev main_call12_v0 : Ref sig .tc := ⟨.hbm, 664, rfl⟩
abbrev main_call12_v1 : Ref sig .tc := ⟨.hbm, 665, rfl⟩
abbrev main_call12_v2 : Ref sig .tc := ⟨.hbm, 666, rfl⟩
abbrev main_call12_v3 : Ref sig .tc := ⟨.hbm, 667, rfl⟩
abbrev main_call12_v4 : Ref sig .tc := ⟨.hbm, 668, rfl⟩
abbrev main_v426 : Ref sig .tc := ⟨.hbm, 669, rfl⟩
abbrev main_c_148 : Ref sig .tc := ⟨.hbm, 670, rfl⟩
abbrev main_v427 : Ref sig .tc := ⟨.hbm, 671, rfl⟩
abbrev main_v428 : Ref sig .tc := ⟨.hbm, 672, rfl⟩
abbrev main_c_149 : Ref sig .tc := ⟨.hbm, 673, rfl⟩
abbrev main_c_150 : Ref sig .tc := ⟨.hbm, 674, rfl⟩
abbrev main_call13_v0 : Ref sig .tc := ⟨.hbm, 675, rfl⟩
abbrev main_call13_v1 : Ref sig .tc := ⟨.hbm, 676, rfl⟩
abbrev main_call13_v2 : Ref sig .tc := ⟨.hbm, 677, rfl⟩
abbrev main_call13_v3 : Ref sig .tc := ⟨.hbm, 678, rfl⟩
abbrev main_call13_v4 : Ref sig .tc := ⟨.hbm, 679, rfl⟩
abbrev main_v429 : Ref sig .tc := ⟨.hbm, 680, rfl⟩
abbrev main_v430 : Ref sig .tc := ⟨.hbm, 681, rfl⟩
abbrev main_c_151 : Ref sig .tc := ⟨.hbm, 682, rfl⟩
abbrev main_c_152 : Ref sig .tc := ⟨.hbm, 683, rfl⟩
abbrev main_call14_v0 : Ref sig .tc := ⟨.hbm, 684, rfl⟩
abbrev main_call14_v1 : Ref sig .tc := ⟨.hbm, 685, rfl⟩
abbrev main_call14_v2 : Ref sig .tc := ⟨.hbm, 686, rfl⟩
abbrev main_call14_v3 : Ref sig .tc := ⟨.hbm, 687, rfl⟩
abbrev main_call14_v4 : Ref sig .tc := ⟨.hbm, 688, rfl⟩
abbrev main_v431 : Ref sig .tc := ⟨.hbm, 689, rfl⟩
abbrev main_c_153 : Ref sig .tc := ⟨.hbm, 690, rfl⟩
abbrev main_v432 : Ref sig .tc := ⟨.hbm, 691, rfl⟩
abbrev main_v433 : Ref sig .tc := ⟨.hbm, 692, rfl⟩
abbrev main_c_154 : Ref sig .tc := ⟨.hbm, 693, rfl⟩
abbrev main_c_155 : Ref sig .tc := ⟨.hbm, 694, rfl⟩
abbrev main_call15_v0 : Ref sig .tc := ⟨.hbm, 695, rfl⟩
abbrev main_call15_v1 : Ref sig .tc := ⟨.hbm, 696, rfl⟩
abbrev main_call15_v2 : Ref sig .tc := ⟨.hbm, 697, rfl⟩
abbrev main_call15_v3 : Ref sig .tc := ⟨.hbm, 698, rfl⟩
abbrev main_call15_v4 : Ref sig .tc := ⟨.hbm, 699, rfl⟩
abbrev main_v434 : Ref sig .tc := ⟨.hbm, 700, rfl⟩
abbrev main_c_156 : Ref sig .tc := ⟨.hbm, 701, rfl⟩
abbrev main_v435 : Ref sig .tc := ⟨.hbm, 702, rfl⟩
abbrev main_v436 : Ref sig .tc := ⟨.hbm, 703, rfl⟩
abbrev main_c_157 : Ref sig .tc := ⟨.hbm, 704, rfl⟩
abbrev main_v437 : Ref sig .tc := ⟨.hbm, 705, rfl⟩
abbrev main_v438 : Ref sig .tc := ⟨.hbm, 706, rfl⟩
abbrev main_v439 : Ref sig .tc := ⟨.hbm, 707, rfl⟩
abbrev main_c_158 : Ref sig .tc := ⟨.hbm, 708, rfl⟩
abbrev main_v440 : Ref sig .tc := ⟨.hbm, 709, rfl⟩
abbrev main_v441 : Ref sig .tc := ⟨.hbm, 710, rfl⟩
abbrev main_c_159 : Ref sig .tc := ⟨.hbm, 711, rfl⟩
abbrev main_v442 : Ref sig .tc := ⟨.hbm, 712, rfl⟩
abbrev main_v443 : Ref sig .tc := ⟨.hbm, 713, rfl⟩
abbrev main_v444 : Ref sig .tc := ⟨.hbm, 714, rfl⟩
abbrev main_v445 : Ref sig .tc := ⟨.hbm, 715, rfl⟩
abbrev main_v446 : Ref sig .tc := ⟨.hbm, 716, rfl⟩
abbrev main_v447 : Ref sig .tc := ⟨.hbm, 717, rfl⟩
abbrev main_v448 : Ref sig .tc := ⟨.hbm, 718, rfl⟩
abbrev main_c_160 : Ref sig .tc := ⟨.hbm, 719, rfl⟩
abbrev main_v449 : Ref sig .tc := ⟨.hbm, 720, rfl⟩
abbrev main_v450 : Ref sig .tc := ⟨.hbm, 721, rfl⟩
abbrev main_c_161 : Ref sig .tc := ⟨.hbm, 722, rfl⟩
abbrev main_v451 : Ref sig .tc := ⟨.hbm, 723, rfl⟩
abbrev main_v452 : Ref sig .tc := ⟨.hbm, 724, rfl⟩
abbrev main_v453 : Ref sig .tc := ⟨.hbm, 725, rfl⟩
abbrev main_c_162 : Ref sig .tc := ⟨.hbm, 726, rfl⟩
abbrev main_v454 : Ref sig .tc := ⟨.hbm, 727, rfl⟩
abbrev main_v455 : Ref sig .tc := ⟨.hbm, 728, rfl⟩
abbrev main_c_163 : Ref sig .tc := ⟨.hbm, 729, rfl⟩
abbrev main_v456 : Ref sig .tc := ⟨.hbm, 730, rfl⟩
abbrev main_v457 : Ref sig .tc := ⟨.hbm, 731, rfl⟩
abbrev main_v458 : Ref sig .tc := ⟨.hbm, 732, rfl⟩
abbrev main_v459 : Ref sig .tc := ⟨.hbm, 733, rfl⟩
abbrev main_v460 : Ref sig .tc := ⟨.hbm, 734, rfl⟩
abbrev main_v461 : Ref sig .tc := ⟨.hbm, 735, rfl⟩
abbrev main_v462 : Ref sig .tc := ⟨.hbm, 736, rfl⟩
abbrev main_c_164 : Ref sig .tc := ⟨.hbm, 737, rfl⟩
abbrev main_v463 : Ref sig .tc := ⟨.hbm, 738, rfl⟩
abbrev main_v464 : Ref sig .tc := ⟨.hbm, 739, rfl⟩
abbrev main_c_165 : Ref sig .tc := ⟨.hbm, 740, rfl⟩
abbrev main_v465 : Ref sig .tc := ⟨.hbm, 741, rfl⟩
abbrev main_v466 : Ref sig .tc := ⟨.hbm, 742, rfl⟩
abbrev main_v467 : Ref sig .tc := ⟨.hbm, 743, rfl⟩
abbrev main_c_166 : Ref sig .tc := ⟨.hbm, 744, rfl⟩
abbrev main_v468 : Ref sig .tc := ⟨.hbm, 745, rfl⟩
abbrev main_v469 : Ref sig .tc := ⟨.hbm, 746, rfl⟩
abbrev main_c_167 : Ref sig .tc := ⟨.hbm, 747, rfl⟩
abbrev main_v470 : Ref sig .tc := ⟨.hbm, 748, rfl⟩
abbrev main_v471 : Ref sig .tc := ⟨.hbm, 749, rfl⟩
abbrev main_v472 : Ref sig .tc := ⟨.hbm, 750, rfl⟩
abbrev main_v473 : Ref sig .tc := ⟨.hbm, 751, rfl⟩
abbrev main_v474 : Ref sig .tc := ⟨.hbm, 752, rfl⟩
abbrev main_v475 : Ref sig .tc := ⟨.hbm, 753, rfl⟩
abbrev main_v476 : Ref sig .tc := ⟨.hbm, 754, rfl⟩
abbrev main_c_168 : Ref sig .tc := ⟨.hbm, 755, rfl⟩
abbrev main_v477 : Ref sig .tc := ⟨.hbm, 756, rfl⟩
abbrev main_v478 : Ref sig .tc := ⟨.hbm, 757, rfl⟩
abbrev main_c_169 : Ref sig .tc := ⟨.hbm, 758, rfl⟩
abbrev main_v479 : Ref sig .tc := ⟨.hbm, 759, rfl⟩
abbrev main_v480 : Ref sig .tc := ⟨.hbm, 760, rfl⟩
abbrev main_v481 : Ref sig .tc := ⟨.hbm, 761, rfl⟩
abbrev main_c_170 : Ref sig .tc := ⟨.hbm, 762, rfl⟩
abbrev main_v482 : Ref sig .tc := ⟨.hbm, 763, rfl⟩
abbrev main_v483 : Ref sig .tc := ⟨.hbm, 764, rfl⟩
abbrev main_c_171 : Ref sig .tc := ⟨.hbm, 765, rfl⟩
abbrev main_v484 : Ref sig .tc := ⟨.hbm, 766, rfl⟩
abbrev main_v485 : Ref sig .tc := ⟨.hbm, 767, rfl⟩
abbrev main_v486 : Ref sig .tc := ⟨.hbm, 768, rfl⟩
abbrev main_v487 : Ref sig .tc := ⟨.hbm, 769, rfl⟩
abbrev main_v488 : Ref sig .tc := ⟨.hbm, 770, rfl⟩
abbrev main_v489 : Ref sig .tc := ⟨.hbm, 771, rfl⟩
abbrev main_v490 : Ref sig .tc := ⟨.hbm, 772, rfl⟩
abbrev main_cst_172 : Ref sig .tc := ⟨.hbm, 773, rfl⟩
abbrev main_v491 : Ref sig .tc := ⟨.hbm, 774, rfl⟩
abbrev main_v492 : Ref sig .tc := ⟨.hbm, 775, rfl⟩
abbrev main_v493 : Ref sig .tc := ⟨.hbm, 776, rfl⟩
abbrev main_v494 : Ref sig .tc := ⟨.hbm, 777, rfl⟩
abbrev main_v495 : Ref sig .tc := ⟨.hbm, 778, rfl⟩
abbrev main_cst_173 : Ref sig .tc := ⟨.hbm, 779, rfl⟩
abbrev main_v496 : Ref sig .tc := ⟨.hbm, 780, rfl⟩
abbrev main_v497 : Ref sig .tc := ⟨.hbm, 781, rfl⟩
abbrev main_v498 : Ref sig .tc := ⟨.hbm, 782, rfl⟩
abbrev main_v499 : Ref sig .tc := ⟨.hbm, 783, rfl⟩
abbrev main_v500 : Ref sig .tc := ⟨.hbm, 784, rfl⟩
abbrev main_v501 : Ref sig .tc := ⟨.hbm, 785, rfl⟩
abbrev main_v502 : Ref sig .tc := ⟨.hbm, 786, rfl⟩
abbrev main_v503 : Ref sig .tc := ⟨.hbm, 787, rfl⟩
abbrev main_cst_174 : Ref sig .tc := ⟨.hbm, 788, rfl⟩
abbrev main_v504 : Ref sig .tc := ⟨.hbm, 789, rfl⟩
abbrev main_v505 : Ref sig .tc := ⟨.hbm, 790, rfl⟩
abbrev main_v506 : Ref sig .tc := ⟨.hbm, 791, rfl⟩
abbrev main_v507 : Ref sig .tc := ⟨.hbm, 792, rfl⟩
abbrev main_v508 : Ref sig .tc := ⟨.hbm, 793, rfl⟩
abbrev main_v509 : Ref sig .tc := ⟨.hbm, 794, rfl⟩
abbrev main_cst_175 : Ref sig .tc := ⟨.hbm, 795, rfl⟩
abbrev main_v510 : Ref sig .tc := ⟨.hbm, 796, rfl⟩
abbrev main_v511 : Ref sig .tc := ⟨.hbm, 797, rfl⟩
abbrev main_v512 : Ref sig .tc := ⟨.hbm, 798, rfl⟩
abbrev main_v513 : Ref sig .tc := ⟨.hbm, 799, rfl⟩
abbrev main_v514 : Ref sig .tc := ⟨.hbm, 800, rfl⟩
abbrev main_v515 : Ref sig .tc := ⟨.hbm, 801, rfl⟩
abbrev main_v516 : Ref sig .tc := ⟨.hbm, 802, rfl⟩
abbrev main_v517 : Ref sig .tc := ⟨.hbm, 803, rfl⟩
abbrev main_v518 : Ref sig .tc := ⟨.hbm, 804, rfl⟩
abbrev main_v519 : Ref sig .tc := ⟨.hbm, 805, rfl⟩
abbrev main_v520 : Ref sig .tc := ⟨.hbm, 806, rfl⟩
abbrev main_v521 : Ref sig .tc := ⟨.hbm, 807, rfl⟩
abbrev main_v522 : Ref sig .tc := ⟨.hbm, 808, rfl⟩
abbrev main_v523 : Ref sig .tc := ⟨.hbm, 809, rfl⟩
abbrev main_v524 : Ref sig .tc := ⟨.hbm, 810, rfl⟩
abbrev main_v525 : Ref sig .tc := ⟨.hbm, 811, rfl⟩
abbrev main_v526 : Ref sig .tc := ⟨.hbm, 812, rfl⟩
abbrev main_v527 : Ref sig .tc := ⟨.hbm, 813, rfl⟩
abbrev main_c_176 : Ref sig .tc := ⟨.hbm, 814, rfl⟩
abbrev main_v528 : Ref sig .tc := ⟨.hbm, 815, rfl⟩
abbrev main_v529 : Ref sig .tc := ⟨.hbm, 816, rfl⟩
abbrev main_c_177 : Ref sig .tc := ⟨.hbm, 817, rfl⟩
abbrev main_v530 : Ref sig .tc := ⟨.hbm, 818, rfl⟩
abbrev main_v531 : Ref sig .tc := ⟨.hbm, 819, rfl⟩
abbrev main_v532 : Ref sig .tc := ⟨.hbm, 820, rfl⟩
abbrev main_v533 : Ref sig .tc := ⟨.hbm, 821, rfl⟩
abbrev main_v534 : Ref sig .tc := ⟨.hbm, 822, rfl⟩
abbrev main_v535 : Ref sig .tc := ⟨.hbm, 823, rfl⟩
abbrev main_v536 : Ref sig .tc := ⟨.hbm, 824, rfl⟩
abbrev main_cst_178 : Ref sig .tc := ⟨.hbm, 825, rfl⟩
abbrev main_v537 : Ref sig .tc := ⟨.hbm, 826, rfl⟩
abbrev main_v538 : Ref sig .tc := ⟨.hbm, 827, rfl⟩
abbrev main_cst_179 : Ref sig .tc := ⟨.hbm, 828, rfl⟩
abbrev main_v539 : Ref sig .tc := ⟨.hbm, 829, rfl⟩
abbrev main_v540 : Ref sig .tc := ⟨.hbm, 830, rfl⟩
abbrev main_cst_180 : Ref sig .tc := ⟨.hbm, 831, rfl⟩
abbrev main_v541 : Ref sig .tc := ⟨.hbm, 832, rfl⟩
abbrev main_v542 : Ref sig .tc := ⟨.hbm, 833, rfl⟩
abbrev main_v543 : Ref sig .tc := ⟨.hbm, 834, rfl⟩
abbrev main_v544 : Ref sig .tc := ⟨.hbm, 835, rfl⟩
abbrev main_cst_181 : Ref sig .tc := ⟨.hbm, 836, rfl⟩
abbrev main_v545 : Ref sig .tc := ⟨.hbm, 837, rfl⟩
abbrev main_v546 : Ref sig .tc := ⟨.hbm, 838, rfl⟩
abbrev main_cst_182 : Ref sig .tc := ⟨.hbm, 839, rfl⟩
abbrev main_v547 : Ref sig .tc := ⟨.hbm, 840, rfl⟩
abbrev main_v548 : Ref sig .tc := ⟨.hbm, 841, rfl⟩
abbrev main_cst_183 : Ref sig .tc := ⟨.hbm, 842, rfl⟩
abbrev main_v549 : Ref sig .tc := ⟨.hbm, 843, rfl⟩
abbrev main_v550 : Ref sig .tc := ⟨.hbm, 844, rfl⟩
abbrev main_v551 : Ref sig .tc := ⟨.hbm, 845, rfl⟩
abbrev main_v552 : Ref sig .tc := ⟨.hbm, 846, rfl⟩
abbrev main_v553 : Ref sig .tc := ⟨.hbm, 847, rfl⟩
abbrev main_v554 : Ref sig .tc := ⟨.hbm, 848, rfl⟩
abbrev main_v555 : Ref sig .tc := ⟨.hbm, 849, rfl⟩
abbrev main_c_184 : Ref sig .tc := ⟨.hbm, 850, rfl⟩
abbrev main_c_185 : Ref sig .tc := ⟨.hbm, 851, rfl⟩
abbrev main_call16_v0 : Ref sig .tc := ⟨.hbm, 852, rfl⟩
abbrev main_call16_v1 : Ref sig .tc := ⟨.hbm, 853, rfl⟩
abbrev main_call16_v2 : Ref sig .tc := ⟨.hbm, 854, rfl⟩
abbrev main_call16_v3 : Ref sig .tc := ⟨.hbm, 855, rfl⟩
abbrev main_call16_v4 : Ref sig .tc := ⟨.hbm, 856, rfl⟩
abbrev main_v556 : Ref sig .tc := ⟨.hbm, 857, rfl⟩
abbrev main_c_186 : Ref sig .tc := ⟨.hbm, 858, rfl⟩
abbrev main_v557 : Ref sig .tc := ⟨.hbm, 859, rfl⟩
abbrev main_v558 : Ref sig .tc := ⟨.hbm, 860, rfl⟩
abbrev main_c_187 : Ref sig .tc := ⟨.hbm, 861, rfl⟩
abbrev main_c_188 : Ref sig .tc := ⟨.hbm, 862, rfl⟩
abbrev main_call17_v0 : Ref sig .tc := ⟨.hbm, 863, rfl⟩
abbrev main_call17_v1 : Ref sig .tc := ⟨.hbm, 864, rfl⟩
abbrev main_call17_v2 : Ref sig .tc := ⟨.hbm, 865, rfl⟩
abbrev main_call17_v3 : Ref sig .tc := ⟨.hbm, 866, rfl⟩
abbrev main_call17_v4 : Ref sig .tc := ⟨.hbm, 867, rfl⟩
abbrev main_v559 : Ref sig .tc := ⟨.hbm, 868, rfl⟩
abbrev main_v560 : Ref sig .tc := ⟨.hbm, 869, rfl⟩
abbrev main_c_189 : Ref sig .tc := ⟨.hbm, 870, rfl⟩
abbrev main_c_190 : Ref sig .tc := ⟨.hbm, 871, rfl⟩
abbrev main_call18_v0 : Ref sig .tc := ⟨.hbm, 872, rfl⟩
abbrev main_call18_v1 : Ref sig .tc := ⟨.hbm, 873, rfl⟩
abbrev main_call18_v2 : Ref sig .tc := ⟨.hbm, 874, rfl⟩
abbrev main_call18_v3 : Ref sig .tc := ⟨.hbm, 875, rfl⟩
abbrev main_call18_v4 : Ref sig .tc := ⟨.hbm, 876, rfl⟩
abbrev main_v561 : Ref sig .tc := ⟨.hbm, 877, rfl⟩
abbrev main_c_191 : Ref sig .tc := ⟨.hbm, 878, rfl⟩
abbrev main_v562 : Ref sig .tc := ⟨.hbm, 879, rfl⟩
abbrev main_v563 : Ref sig .tc := ⟨.hbm, 880, rfl⟩
abbrev main_c_192 : Ref sig .tc := ⟨.hbm, 881, rfl⟩
abbrev main_c_193 : Ref sig .tc := ⟨.hbm, 882, rfl⟩
abbrev main_call19_v0 : Ref sig .tc := ⟨.hbm, 883, rfl⟩
abbrev main_call19_v1 : Ref sig .tc := ⟨.hbm, 884, rfl⟩
abbrev main_call19_v2 : Ref sig .tc := ⟨.hbm, 885, rfl⟩
abbrev main_call19_v3 : Ref sig .tc := ⟨.hbm, 886, rfl⟩
abbrev main_call19_v4 : Ref sig .tc := ⟨.hbm, 887, rfl⟩
abbrev main_v564 : Ref sig .tc := ⟨.hbm, 888, rfl⟩
abbrev main_c_194 : Ref sig .tc := ⟨.hbm, 889, rfl⟩
abbrev main_v565 : Ref sig .tc := ⟨.hbm, 890, rfl⟩
abbrev main_v566 : Ref sig .tc := ⟨.hbm, 891, rfl⟩
abbrev main_c_195 : Ref sig .tc := ⟨.hbm, 892, rfl⟩
abbrev main_v567 : Ref sig .tc := ⟨.hbm, 893, rfl⟩
abbrev main_v568 : Ref sig .tc := ⟨.hbm, 894, rfl⟩
abbrev main_v569 : Ref sig .tc := ⟨.hbm, 895, rfl⟩
abbrev main_c_196 : Ref sig .tc := ⟨.hbm, 896, rfl⟩
abbrev main_v570 : Ref sig .tc := ⟨.hbm, 897, rfl⟩
abbrev main_v571 : Ref sig .tc := ⟨.hbm, 898, rfl⟩
abbrev main_c_197 : Ref sig .tc := ⟨.hbm, 899, rfl⟩
abbrev main_v572 : Ref sig .tc := ⟨.hbm, 900, rfl⟩
abbrev main_v573 : Ref sig .tc := ⟨.hbm, 901, rfl⟩
abbrev main_v574 : Ref sig .tc := ⟨.hbm, 902, rfl⟩
abbrev main_v575 : Ref sig .tc := ⟨.hbm, 903, rfl⟩
abbrev main_v576 : Ref sig .tc := ⟨.hbm, 904, rfl⟩
abbrev main_v577 : Ref sig .tc := ⟨.hbm, 905, rfl⟩
abbrev main_v578 : Ref sig .tc := ⟨.hbm, 906, rfl⟩
abbrev main_c_198 : Ref sig .tc := ⟨.hbm, 907, rfl⟩
abbrev main_v579 : Ref sig .tc := ⟨.hbm, 908, rfl⟩
abbrev main_v580 : Ref sig .tc := ⟨.hbm, 909, rfl⟩
abbrev main_c_199 : Ref sig .tc := ⟨.hbm, 910, rfl⟩
abbrev main_v581 : Ref sig .tc := ⟨.hbm, 911, rfl⟩
abbrev main_v582 : Ref sig .tc := ⟨.hbm, 912, rfl⟩
abbrev main_v583 : Ref sig .tc := ⟨.hbm, 913, rfl⟩
abbrev main_c_200 : Ref sig .tc := ⟨.hbm, 914, rfl⟩
abbrev main_v584 : Ref sig .tc := ⟨.hbm, 915, rfl⟩
abbrev main_v585 : Ref sig .tc := ⟨.hbm, 916, rfl⟩
abbrev main_c_201 : Ref sig .tc := ⟨.hbm, 917, rfl⟩
abbrev main_v586 : Ref sig .tc := ⟨.hbm, 918, rfl⟩
abbrev main_v587 : Ref sig .tc := ⟨.hbm, 919, rfl⟩
abbrev main_v588 : Ref sig .tc := ⟨.hbm, 920, rfl⟩
abbrev main_v589 : Ref sig .tc := ⟨.hbm, 921, rfl⟩
abbrev main_v590 : Ref sig .tc := ⟨.hbm, 922, rfl⟩
abbrev main_v591 : Ref sig .tc := ⟨.hbm, 923, rfl⟩
abbrev main_v592 : Ref sig .tc := ⟨.hbm, 924, rfl⟩
abbrev main_c_202 : Ref sig .tc := ⟨.hbm, 925, rfl⟩
abbrev main_v593 : Ref sig .tc := ⟨.hbm, 926, rfl⟩
abbrev main_v594 : Ref sig .tc := ⟨.hbm, 927, rfl⟩
abbrev main_c_203 : Ref sig .tc := ⟨.hbm, 928, rfl⟩
abbrev main_v595 : Ref sig .tc := ⟨.hbm, 929, rfl⟩
abbrev main_v596 : Ref sig .tc := ⟨.hbm, 930, rfl⟩
abbrev main_v597 : Ref sig .tc := ⟨.hbm, 931, rfl⟩
abbrev main_c_204 : Ref sig .tc := ⟨.hbm, 932, rfl⟩
abbrev main_v598 : Ref sig .tc := ⟨.hbm, 933, rfl⟩
abbrev main_v599 : Ref sig .tc := ⟨.hbm, 934, rfl⟩
abbrev main_c_205 : Ref sig .tc := ⟨.hbm, 935, rfl⟩
abbrev main_v600 : Ref sig .tc := ⟨.hbm, 936, rfl⟩
abbrev main_v601 : Ref sig .tc := ⟨.hbm, 937, rfl⟩
abbrev main_v602 : Ref sig .tc := ⟨.hbm, 938, rfl⟩
abbrev main_v603 : Ref sig .tc := ⟨.hbm, 939, rfl⟩
abbrev main_v604 : Ref sig .tc := ⟨.hbm, 940, rfl⟩
abbrev main_v605 : Ref sig .tc := ⟨.hbm, 941, rfl⟩
abbrev main_v606 : Ref sig .tc := ⟨.hbm, 942, rfl⟩
abbrev main_c_206 : Ref sig .tc := ⟨.hbm, 943, rfl⟩
abbrev main_v607 : Ref sig .tc := ⟨.hbm, 944, rfl⟩
abbrev main_v608 : Ref sig .tc := ⟨.hbm, 945, rfl⟩
abbrev main_c_207 : Ref sig .tc := ⟨.hbm, 946, rfl⟩
abbrev main_v609 : Ref sig .tc := ⟨.hbm, 947, rfl⟩
abbrev main_v610 : Ref sig .tc := ⟨.hbm, 948, rfl⟩
abbrev main_v611 : Ref sig .tc := ⟨.hbm, 949, rfl⟩
abbrev main_c_208 : Ref sig .tc := ⟨.hbm, 950, rfl⟩
abbrev main_v612 : Ref sig .tc := ⟨.hbm, 951, rfl⟩
abbrev main_v613 : Ref sig .tc := ⟨.hbm, 952, rfl⟩
abbrev main_c_209 : Ref sig .tc := ⟨.hbm, 953, rfl⟩
abbrev main_v614 : Ref sig .tc := ⟨.hbm, 954, rfl⟩
abbrev main_v615 : Ref sig .tc := ⟨.hbm, 955, rfl⟩
abbrev main_v616 : Ref sig .tc := ⟨.hbm, 956, rfl⟩
abbrev main_v617 : Ref sig .tc := ⟨.hbm, 957, rfl⟩
abbrev main_v618 : Ref sig .tc := ⟨.hbm, 958, rfl⟩
abbrev main_v619 : Ref sig .tc := ⟨.hbm, 959, rfl⟩
abbrev main_v620 : Ref sig .tc := ⟨.hbm, 960, rfl⟩
abbrev main_cst_210 : Ref sig .tc := ⟨.hbm, 961, rfl⟩
abbrev main_v621 : Ref sig .tc := ⟨.hbm, 962, rfl⟩
abbrev main_v622 : Ref sig .tc := ⟨.hbm, 963, rfl⟩
abbrev main_v623 : Ref sig .tc := ⟨.hbm, 964, rfl⟩
abbrev main_v624 : Ref sig .tc := ⟨.hbm, 965, rfl⟩
abbrev main_v625 : Ref sig .tc := ⟨.hbm, 966, rfl⟩
abbrev main_cst_211 : Ref sig .tc := ⟨.hbm, 967, rfl⟩
abbrev main_v626 : Ref sig .tc := ⟨.hbm, 968, rfl⟩
abbrev main_v627 : Ref sig .tc := ⟨.hbm, 969, rfl⟩
abbrev main_v628 : Ref sig .tc := ⟨.hbm, 970, rfl⟩
abbrev main_v629 : Ref sig .tc := ⟨.hbm, 971, rfl⟩
abbrev main_v630 : Ref sig .tc := ⟨.hbm, 972, rfl⟩
abbrev main_v631 : Ref sig .tc := ⟨.hbm, 973, rfl⟩
abbrev main_v632 : Ref sig .tc := ⟨.hbm, 974, rfl⟩
abbrev main_v633 : Ref sig .tc := ⟨.hbm, 975, rfl⟩
abbrev main_cst_212 : Ref sig .tc := ⟨.hbm, 976, rfl⟩
abbrev main_v634 : Ref sig .tc := ⟨.hbm, 977, rfl⟩
abbrev main_v635 : Ref sig .tc := ⟨.hbm, 978, rfl⟩
abbrev main_v636 : Ref sig .tc := ⟨.hbm, 979, rfl⟩
abbrev main_v637 : Ref sig .tc := ⟨.hbm, 980, rfl⟩
abbrev main_v638 : Ref sig .tc := ⟨.hbm, 981, rfl⟩
abbrev main_v639 : Ref sig .tc := ⟨.hbm, 982, rfl⟩
abbrev main_cst_213 : Ref sig .tc := ⟨.hbm, 983, rfl⟩
abbrev main_v640 : Ref sig .tc := ⟨.hbm, 984, rfl⟩
abbrev main_v641 : Ref sig .tc := ⟨.hbm, 985, rfl⟩
abbrev main_v642 : Ref sig .tc := ⟨.hbm, 986, rfl⟩
abbrev main_v643 : Ref sig .tc := ⟨.hbm, 987, rfl⟩
abbrev main_v644 : Ref sig .tc := ⟨.hbm, 988, rfl⟩
abbrev main_v645 : Ref sig .tc := ⟨.hbm, 989, rfl⟩
abbrev main_v646 : Ref sig .tc := ⟨.hbm, 990, rfl⟩
abbrev main_v647 : Ref sig .tc := ⟨.hbm, 991, rfl⟩
abbrev main_v648 : Ref sig .tc := ⟨.hbm, 992, rfl⟩
abbrev main_v649 : Ref sig .tc := ⟨.hbm, 993, rfl⟩
abbrev main_v650 : Ref sig .tc := ⟨.hbm, 994, rfl⟩
abbrev main_v651 : Ref sig .tc := ⟨.hbm, 995, rfl⟩
abbrev main_v652 : Ref sig .tc := ⟨.hbm, 996, rfl⟩
abbrev main_v653 : Ref sig .tc := ⟨.hbm, 997, rfl⟩
abbrev main_v654 : Ref sig .tc := ⟨.hbm, 998, rfl⟩
abbrev main_v655 : Ref sig .tc := ⟨.hbm, 999, rfl⟩
abbrev main_v656 : Ref sig .tc := ⟨.hbm, 1000, rfl⟩
abbrev main_v657 : Ref sig .tc := ⟨.hbm, 1001, rfl⟩
abbrev main_c_214 : Ref sig .tc := ⟨.hbm, 1002, rfl⟩
abbrev main_v658 : Ref sig .tc := ⟨.hbm, 1003, rfl⟩
abbrev main_v659 : Ref sig .tc := ⟨.hbm, 1004, rfl⟩
abbrev main_c_215 : Ref sig .tc := ⟨.hbm, 1005, rfl⟩
abbrev main_v660 : Ref sig .tc := ⟨.hbm, 1006, rfl⟩
abbrev main_v661 : Ref sig .tc := ⟨.hbm, 1007, rfl⟩
abbrev main_v662 : Ref sig .tc := ⟨.hbm, 1008, rfl⟩
abbrev main_v663 : Ref sig .tc := ⟨.hbm, 1009, rfl⟩
abbrev main_v664 : Ref sig .tc := ⟨.hbm, 1010, rfl⟩
abbrev main_v665 : Ref sig .tc := ⟨.hbm, 1011, rfl⟩
abbrev main_v666 : Ref sig .tc := ⟨.hbm, 1012, rfl⟩
abbrev main_cst_216 : Ref sig .tc := ⟨.hbm, 1013, rfl⟩
abbrev main_v667 : Ref sig .tc := ⟨.hbm, 1014, rfl⟩
abbrev main_v668 : Ref sig .tc := ⟨.hbm, 1015, rfl⟩
abbrev main_cst_217 : Ref sig .tc := ⟨.hbm, 1016, rfl⟩
abbrev main_v669 : Ref sig .tc := ⟨.hbm, 1017, rfl⟩
abbrev main_v670 : Ref sig .tc := ⟨.hbm, 1018, rfl⟩
abbrev main_cst_218 : Ref sig .tc := ⟨.hbm, 1019, rfl⟩
abbrev main_v671 : Ref sig .tc := ⟨.hbm, 1020, rfl⟩
abbrev main_v672 : Ref sig .tc := ⟨.hbm, 1021, rfl⟩
abbrev main_v673 : Ref sig .tc := ⟨.hbm, 1022, rfl⟩
abbrev main_v674 : Ref sig .tc := ⟨.hbm, 1023, rfl⟩
abbrev main_cst_219 : Ref sig .tc := ⟨.hbm, 1024, rfl⟩
abbrev main_v675 : Ref sig .tc := ⟨.hbm, 1025, rfl⟩
abbrev main_v676 : Ref sig .tc := ⟨.hbm, 1026, rfl⟩
abbrev main_cst_220 : Ref sig .tc := ⟨.hbm, 1027, rfl⟩
abbrev main_v677 : Ref sig .tc := ⟨.hbm, 1028, rfl⟩
abbrev main_v678 : Ref sig .tc := ⟨.hbm, 1029, rfl⟩
abbrev main_cst_221 : Ref sig .tc := ⟨.hbm, 1030, rfl⟩
abbrev main_v679 : Ref sig .tc := ⟨.hbm, 1031, rfl⟩
abbrev main_v680 : Ref sig .tc := ⟨.hbm, 1032, rfl⟩
abbrev main_v681 : Ref sig .tc := ⟨.hbm, 1033, rfl⟩
abbrev main_v682 : Ref sig .tc := ⟨.hbm, 1034, rfl⟩
abbrev main_v683 : Ref sig .tc := ⟨.hbm, 1035, rfl⟩
abbrev main_v684 : Ref sig .tc := ⟨.hbm, 1036, rfl⟩
abbrev main_v685 : Ref sig .tc := ⟨.hbm, 1037, rfl⟩
abbrev main_c_222 : Ref sig .tc := ⟨.hbm, 1038, rfl⟩
abbrev main_c_223 : Ref sig .tc := ⟨.hbm, 1039, rfl⟩
abbrev main_call20_v0 : Ref sig .tc := ⟨.hbm, 1040, rfl⟩
abbrev main_call20_v1 : Ref sig .tc := ⟨.hbm, 1041, rfl⟩
abbrev main_call20_v2 : Ref sig .tc := ⟨.hbm, 1042, rfl⟩
abbrev main_call20_v3 : Ref sig .tc := ⟨.hbm, 1043, rfl⟩
abbrev main_call20_v4 : Ref sig .tc := ⟨.hbm, 1044, rfl⟩
abbrev main_v686 : Ref sig .tc := ⟨.hbm, 1045, rfl⟩
abbrev main_c_224 : Ref sig .tc := ⟨.hbm, 1046, rfl⟩
abbrev main_v687 : Ref sig .tc := ⟨.hbm, 1047, rfl⟩
abbrev main_v688 : Ref sig .tc := ⟨.hbm, 1048, rfl⟩
abbrev main_c_225 : Ref sig .tc := ⟨.hbm, 1049, rfl⟩
abbrev main_c_226 : Ref sig .tc := ⟨.hbm, 1050, rfl⟩
abbrev main_call21_v0 : Ref sig .tc := ⟨.hbm, 1051, rfl⟩
abbrev main_call21_v1 : Ref sig .tc := ⟨.hbm, 1052, rfl⟩
abbrev main_call21_v2 : Ref sig .tc := ⟨.hbm, 1053, rfl⟩
abbrev main_call21_v3 : Ref sig .tc := ⟨.hbm, 1054, rfl⟩
abbrev main_call21_v4 : Ref sig .tc := ⟨.hbm, 1055, rfl⟩
abbrev main_v689 : Ref sig .tc := ⟨.hbm, 1056, rfl⟩
abbrev main_v690 : Ref sig .tc := ⟨.hbm, 1057, rfl⟩
abbrev main_c_227 : Ref sig .tc := ⟨.hbm, 1058, rfl⟩
abbrev main_c_228 : Ref sig .tc := ⟨.hbm, 1059, rfl⟩
abbrev main_call22_v0 : Ref sig .tc := ⟨.hbm, 1060, rfl⟩
abbrev main_call22_v1 : Ref sig .tc := ⟨.hbm, 1061, rfl⟩
abbrev main_call22_v2 : Ref sig .tc := ⟨.hbm, 1062, rfl⟩
abbrev main_call22_v3 : Ref sig .tc := ⟨.hbm, 1063, rfl⟩
abbrev main_call22_v4 : Ref sig .tc := ⟨.hbm, 1064, rfl⟩
abbrev main_v691 : Ref sig .tc := ⟨.hbm, 1065, rfl⟩
abbrev main_c_229 : Ref sig .tc := ⟨.hbm, 1066, rfl⟩
abbrev main_v692 : Ref sig .tc := ⟨.hbm, 1067, rfl⟩
abbrev main_v693 : Ref sig .tc := ⟨.hbm, 1068, rfl⟩
abbrev main_c_230 : Ref sig .tc := ⟨.hbm, 1069, rfl⟩
abbrev main_c_231 : Ref sig .tc := ⟨.hbm, 1070, rfl⟩
abbrev main_call23_v0 : Ref sig .tc := ⟨.hbm, 1071, rfl⟩
abbrev main_call23_v1 : Ref sig .tc := ⟨.hbm, 1072, rfl⟩
abbrev main_call23_v2 : Ref sig .tc := ⟨.hbm, 1073, rfl⟩
abbrev main_call23_v3 : Ref sig .tc := ⟨.hbm, 1074, rfl⟩
abbrev main_call23_v4 : Ref sig .tc := ⟨.hbm, 1075, rfl⟩
abbrev main_v694 : Ref sig .tc := ⟨.hbm, 1076, rfl⟩
abbrev main_c_232 : Ref sig .tc := ⟨.hbm, 1077, rfl⟩
abbrev main_v695 : Ref sig .tc := ⟨.hbm, 1078, rfl⟩
abbrev main_v696 : Ref sig .tc := ⟨.hbm, 1079, rfl⟩
abbrev main_c_233 : Ref sig .tc := ⟨.hbm, 1080, rfl⟩
abbrev main_v697 : Ref sig .tc := ⟨.hbm, 1081, rfl⟩
abbrev main_v698 : Ref sig .tc := ⟨.hbm, 1082, rfl⟩
abbrev main_v699 : Ref sig .tc := ⟨.hbm, 1083, rfl⟩
abbrev main_c_234 : Ref sig .tc := ⟨.hbm, 1084, rfl⟩
abbrev main_v700 : Ref sig .tc := ⟨.hbm, 1085, rfl⟩
abbrev main_v701 : Ref sig .tc := ⟨.hbm, 1086, rfl⟩
abbrev main_c_235 : Ref sig .tc := ⟨.hbm, 1087, rfl⟩
abbrev main_v702 : Ref sig .tc := ⟨.hbm, 1088, rfl⟩
abbrev main_v703 : Ref sig .tc := ⟨.hbm, 1089, rfl⟩
abbrev main_v704 : Ref sig .tc := ⟨.hbm, 1090, rfl⟩
abbrev main_v705 : Ref sig .tc := ⟨.hbm, 1091, rfl⟩
abbrev main_v706 : Ref sig .tc := ⟨.hbm, 1092, rfl⟩
abbrev main_v707 : Ref sig .tc := ⟨.hbm, 1093, rfl⟩
abbrev main_v708 : Ref sig .tc := ⟨.hbm, 1094, rfl⟩
abbrev main_c_236 : Ref sig .tc := ⟨.hbm, 1095, rfl⟩
abbrev main_v709 : Ref sig .tc := ⟨.hbm, 1096, rfl⟩
abbrev main_v710 : Ref sig .tc := ⟨.hbm, 1097, rfl⟩
abbrev main_c_237 : Ref sig .tc := ⟨.hbm, 1098, rfl⟩
abbrev main_v711 : Ref sig .tc := ⟨.hbm, 1099, rfl⟩
abbrev main_v712 : Ref sig .tc := ⟨.hbm, 1100, rfl⟩
abbrev main_v713 : Ref sig .tc := ⟨.hbm, 1101, rfl⟩
abbrev main_c_238 : Ref sig .tc := ⟨.hbm, 1102, rfl⟩
abbrev main_v714 : Ref sig .tc := ⟨.hbm, 1103, rfl⟩
abbrev main_v715 : Ref sig .tc := ⟨.hbm, 1104, rfl⟩
abbrev main_c_239 : Ref sig .tc := ⟨.hbm, 1105, rfl⟩
abbrev main_v716 : Ref sig .tc := ⟨.hbm, 1106, rfl⟩
abbrev main_v717 : Ref sig .tc := ⟨.hbm, 1107, rfl⟩
abbrev main_v718 : Ref sig .tc := ⟨.hbm, 1108, rfl⟩
abbrev main_v719 : Ref sig .tc := ⟨.hbm, 1109, rfl⟩
abbrev main_v720 : Ref sig .tc := ⟨.hbm, 1110, rfl⟩
abbrev main_v721 : Ref sig .tc := ⟨.hbm, 1111, rfl⟩
abbrev main_v722 : Ref sig .tc := ⟨.hbm, 1112, rfl⟩
abbrev main_c_240 : Ref sig .tc := ⟨.hbm, 1113, rfl⟩
abbrev main_v723 : Ref sig .tc := ⟨.hbm, 1114, rfl⟩
abbrev main_v724 : Ref sig .tc := ⟨.hbm, 1115, rfl⟩
abbrev main_c_241 : Ref sig .tc := ⟨.hbm, 1116, rfl⟩
abbrev main_v725 : Ref sig .tc := ⟨.hbm, 1117, rfl⟩
abbrev main_v726 : Ref sig .tc := ⟨.hbm, 1118, rfl⟩
abbrev main_v727 : Ref sig .tc := ⟨.hbm, 1119, rfl⟩
abbrev main_c_242 : Ref sig .tc := ⟨.hbm, 1120, rfl⟩
abbrev main_v728 : Ref sig .tc := ⟨.hbm, 1121, rfl⟩
abbrev main_v729 : Ref sig .tc := ⟨.hbm, 1122, rfl⟩
abbrev main_c_243 : Ref sig .tc := ⟨.hbm, 1123, rfl⟩
abbrev main_v730 : Ref sig .tc := ⟨.hbm, 1124, rfl⟩
abbrev main_v731 : Ref sig .tc := ⟨.hbm, 1125, rfl⟩
abbrev main_v732 : Ref sig .tc := ⟨.hbm, 1126, rfl⟩
abbrev main_v733 : Ref sig .tc := ⟨.hbm, 1127, rfl⟩
abbrev main_v734 : Ref sig .tc := ⟨.hbm, 1128, rfl⟩
abbrev main_v735 : Ref sig .tc := ⟨.hbm, 1129, rfl⟩
abbrev main_v736 : Ref sig .tc := ⟨.hbm, 1130, rfl⟩
abbrev main_c_244 : Ref sig .tc := ⟨.hbm, 1131, rfl⟩
abbrev main_v737 : Ref sig .tc := ⟨.hbm, 1132, rfl⟩
abbrev main_v738 : Ref sig .tc := ⟨.hbm, 1133, rfl⟩
abbrev main_c_245 : Ref sig .tc := ⟨.hbm, 1134, rfl⟩
abbrev main_v739 : Ref sig .tc := ⟨.hbm, 1135, rfl⟩
abbrev main_v740 : Ref sig .tc := ⟨.hbm, 1136, rfl⟩
abbrev main_v741 : Ref sig .tc := ⟨.hbm, 1137, rfl⟩
abbrev main_c_246 : Ref sig .tc := ⟨.hbm, 1138, rfl⟩
abbrev main_v742 : Ref sig .tc := ⟨.hbm, 1139, rfl⟩
abbrev main_v743 : Ref sig .tc := ⟨.hbm, 1140, rfl⟩
abbrev main_c_247 : Ref sig .tc := ⟨.hbm, 1141, rfl⟩
abbrev main_v744 : Ref sig .tc := ⟨.hbm, 1142, rfl⟩
abbrev main_v745 : Ref sig .tc := ⟨.hbm, 1143, rfl⟩
abbrev main_v746 : Ref sig .tc := ⟨.hbm, 1144, rfl⟩
abbrev main_v747 : Ref sig .tc := ⟨.hbm, 1145, rfl⟩
abbrev main_v748 : Ref sig .tc := ⟨.hbm, 1146, rfl⟩
abbrev main_v749 : Ref sig .tc := ⟨.hbm, 1147, rfl⟩
abbrev main_v750 : Ref sig .tc := ⟨.hbm, 1148, rfl⟩
abbrev main_cst_248 : Ref sig .tc := ⟨.hbm, 1149, rfl⟩
abbrev main_v751 : Ref sig .tc := ⟨.hbm, 1150, rfl⟩
abbrev main_v752 : Ref sig .tc := ⟨.hbm, 1151, rfl⟩
abbrev main_v753 : Ref sig .tc := ⟨.hbm, 1152, rfl⟩
abbrev main_v754 : Ref sig .tc := ⟨.hbm, 1153, rfl⟩
abbrev main_v755 : Ref sig .tc := ⟨.hbm, 1154, rfl⟩
abbrev main_cst_249 : Ref sig .tc := ⟨.hbm, 1155, rfl⟩
abbrev main_v756 : Ref sig .tc := ⟨.hbm, 1156, rfl⟩
abbrev main_v757 : Ref sig .tc := ⟨.hbm, 1157, rfl⟩
abbrev main_v758 : Ref sig .tc := ⟨.hbm, 1158, rfl⟩
abbrev main_v759 : Ref sig .tc := ⟨.hbm, 1159, rfl⟩
abbrev main_v760 : Ref sig .tc := ⟨.hbm, 1160, rfl⟩
abbrev main_v761 : Ref sig .tc := ⟨.hbm, 1161, rfl⟩
abbrev main_v762 : Ref sig .tc := ⟨.hbm, 1162, rfl⟩
abbrev main_v763 : Ref sig .tc := ⟨.hbm, 1163, rfl⟩
abbrev main_cst_250 : Ref sig .tc := ⟨.hbm, 1164, rfl⟩
abbrev main_v764 : Ref sig .tc := ⟨.hbm, 1165, rfl⟩
abbrev main_v765 : Ref sig .tc := ⟨.hbm, 1166, rfl⟩
abbrev main_v766 : Ref sig .tc := ⟨.hbm, 1167, rfl⟩
abbrev main_v767 : Ref sig .tc := ⟨.hbm, 1168, rfl⟩
abbrev main_v768 : Ref sig .tc := ⟨.hbm, 1169, rfl⟩
abbrev main_v769 : Ref sig .tc := ⟨.hbm, 1170, rfl⟩
abbrev main_cst_251 : Ref sig .tc := ⟨.hbm, 1171, rfl⟩
abbrev main_v770 : Ref sig .tc := ⟨.hbm, 1172, rfl⟩
abbrev main_v771 : Ref sig .tc := ⟨.hbm, 1173, rfl⟩
abbrev main_v772 : Ref sig .tc := ⟨.hbm, 1174, rfl⟩
abbrev main_v773 : Ref sig .tc := ⟨.hbm, 1175, rfl⟩
abbrev main_v774 : Ref sig .tc := ⟨.hbm, 1176, rfl⟩
abbrev main_v775 : Ref sig .tc := ⟨.hbm, 1177, rfl⟩
abbrev main_v776 : Ref sig .tc := ⟨.hbm, 1178, rfl⟩
abbrev main_v777 : Ref sig .tc := ⟨.hbm, 1179, rfl⟩
abbrev main_v778 : Ref sig .tc := ⟨.hbm, 1180, rfl⟩
abbrev main_v779 : Ref sig .tc := ⟨.hbm, 1181, rfl⟩
abbrev main_v780 : Ref sig .tc := ⟨.hbm, 1182, rfl⟩
abbrev main_v781 : Ref sig .tc := ⟨.hbm, 1183, rfl⟩
abbrev main_v782 : Ref sig .tc := ⟨.hbm, 1184, rfl⟩
abbrev main_v783 : Ref sig .tc := ⟨.hbm, 1185, rfl⟩
abbrev main_v784 : Ref sig .tc := ⟨.hbm, 1186, rfl⟩
abbrev main_v785 : Ref sig .tc := ⟨.hbm, 1187, rfl⟩
abbrev main_v786 : Ref sig .tc := ⟨.hbm, 1188, rfl⟩
abbrev main_v787 : Ref sig .tc := ⟨.hbm, 1189, rfl⟩
abbrev main_c_252 : Ref sig .tc := ⟨.hbm, 1190, rfl⟩
abbrev main_v788 : Ref sig .tc := ⟨.hbm, 1191, rfl⟩
abbrev main_v789 : Ref sig .tc := ⟨.hbm, 1192, rfl⟩
abbrev main_c_253 : Ref sig .tc := ⟨.hbm, 1193, rfl⟩
abbrev main_v790 : Ref sig .tc := ⟨.hbm, 1194, rfl⟩
abbrev main_v791 : Ref sig .tc := ⟨.hbm, 1195, rfl⟩
abbrev main_v792 : Ref sig .tc := ⟨.hbm, 1196, rfl⟩
abbrev main_v793 : Ref sig .tc := ⟨.hbm, 1197, rfl⟩
abbrev main_v794 : Ref sig .tc := ⟨.hbm, 1198, rfl⟩
abbrev main_v795 : Ref sig .tc := ⟨.hbm, 1199, rfl⟩
abbrev main_v796 : Ref sig .tc := ⟨.hbm, 1200, rfl⟩
abbrev main_cst_254 : Ref sig .tc := ⟨.hbm, 1201, rfl⟩
abbrev main_v797 : Ref sig .tc := ⟨.hbm, 1202, rfl⟩
abbrev main_v798 : Ref sig .tc := ⟨.hbm, 1203, rfl⟩
abbrev main_cst_255 : Ref sig .tc := ⟨.hbm, 1204, rfl⟩
abbrev main_v799 : Ref sig .tc := ⟨.hbm, 1205, rfl⟩
abbrev main_v800 : Ref sig .tc := ⟨.hbm, 1206, rfl⟩
abbrev main_cst_256 : Ref sig .tc := ⟨.hbm, 1207, rfl⟩
abbrev main_v801 : Ref sig .tc := ⟨.hbm, 1208, rfl⟩
abbrev main_v802 : Ref sig .tc := ⟨.hbm, 1209, rfl⟩
abbrev main_v803 : Ref sig .tc := ⟨.hbm, 1210, rfl⟩
abbrev main_v804 : Ref sig .tc := ⟨.hbm, 1211, rfl⟩
abbrev main_cst_257 : Ref sig .tc := ⟨.hbm, 1212, rfl⟩
abbrev main_v805 : Ref sig .tc := ⟨.hbm, 1213, rfl⟩
abbrev main_v806 : Ref sig .tc := ⟨.hbm, 1214, rfl⟩
abbrev main_cst_258 : Ref sig .tc := ⟨.hbm, 1215, rfl⟩
abbrev main_v807 : Ref sig .tc := ⟨.hbm, 1216, rfl⟩
abbrev main_v808 : Ref sig .tc := ⟨.hbm, 1217, rfl⟩
abbrev main_cst_259 : Ref sig .tc := ⟨.hbm, 1218, rfl⟩
abbrev main_v809 : Ref sig .tc := ⟨.hbm, 1219, rfl⟩
abbrev main_v810 : Ref sig .tc := ⟨.hbm, 1220, rfl⟩
abbrev main_v811 : Ref sig .tc := ⟨.hbm, 1221, rfl⟩
abbrev main_v812 : Ref sig .tc := ⟨.hbm, 1222, rfl⟩
abbrev main_v813 : Ref sig .tc := ⟨.hbm, 1223, rfl⟩
abbrev main_v814 : Ref sig .tc := ⟨.hbm, 1224, rfl⟩
abbrev main_v815 : Ref sig .tc := ⟨.hbm, 1225, rfl⟩
abbrev main_c_260 : Ref sig .tc := ⟨.hbm, 1226, rfl⟩
abbrev main_c_261 : Ref sig .tc := ⟨.hbm, 1227, rfl⟩
abbrev main_call24_v0 : Ref sig .tc := ⟨.hbm, 1228, rfl⟩
abbrev main_call24_v1 : Ref sig .tc := ⟨.hbm, 1229, rfl⟩
abbrev main_call24_v2 : Ref sig .tc := ⟨.hbm, 1230, rfl⟩
abbrev main_call24_v3 : Ref sig .tc := ⟨.hbm, 1231, rfl⟩
abbrev main_call24_v4 : Ref sig .tc := ⟨.hbm, 1232, rfl⟩
abbrev main_v816 : Ref sig .tc := ⟨.hbm, 1233, rfl⟩
abbrev main_c_262 : Ref sig .tc := ⟨.hbm, 1234, rfl⟩
abbrev main_v817 : Ref sig .tc := ⟨.hbm, 1235, rfl⟩
abbrev main_v818 : Ref sig .tc := ⟨.hbm, 1236, rfl⟩
abbrev main_c_263 : Ref sig .tc := ⟨.hbm, 1237, rfl⟩
abbrev main_c_264 : Ref sig .tc := ⟨.hbm, 1238, rfl⟩
abbrev main_call25_v0 : Ref sig .tc := ⟨.hbm, 1239, rfl⟩
abbrev main_call25_v1 : Ref sig .tc := ⟨.hbm, 1240, rfl⟩
abbrev main_call25_v2 : Ref sig .tc := ⟨.hbm, 1241, rfl⟩
abbrev main_call25_v3 : Ref sig .tc := ⟨.hbm, 1242, rfl⟩
abbrev main_call25_v4 : Ref sig .tc := ⟨.hbm, 1243, rfl⟩
abbrev main_v819 : Ref sig .tc := ⟨.hbm, 1244, rfl⟩
abbrev main_v820 : Ref sig .tc := ⟨.hbm, 1245, rfl⟩
abbrev main_c_265 : Ref sig .tc := ⟨.hbm, 1246, rfl⟩
abbrev main_c_266 : Ref sig .tc := ⟨.hbm, 1247, rfl⟩
abbrev main_call26_v0 : Ref sig .tc := ⟨.hbm, 1248, rfl⟩
abbrev main_call26_v1 : Ref sig .tc := ⟨.hbm, 1249, rfl⟩
abbrev main_call26_v2 : Ref sig .tc := ⟨.hbm, 1250, rfl⟩
abbrev main_call26_v3 : Ref sig .tc := ⟨.hbm, 1251, rfl⟩
abbrev main_call26_v4 : Ref sig .tc := ⟨.hbm, 1252, rfl⟩
abbrev main_v821 : Ref sig .tc := ⟨.hbm, 1253, rfl⟩
abbrev main_c_267 : Ref sig .tc := ⟨.hbm, 1254, rfl⟩
abbrev main_v822 : Ref sig .tc := ⟨.hbm, 1255, rfl⟩
abbrev main_v823 : Ref sig .tc := ⟨.hbm, 1256, rfl⟩
abbrev main_c_268 : Ref sig .tc := ⟨.hbm, 1257, rfl⟩
abbrev main_c_269 : Ref sig .tc := ⟨.hbm, 1258, rfl⟩
abbrev main_call27_v0 : Ref sig .tc := ⟨.hbm, 1259, rfl⟩
abbrev main_call27_v1 : Ref sig .tc := ⟨.hbm, 1260, rfl⟩
abbrev main_call27_v2 : Ref sig .tc := ⟨.hbm, 1261, rfl⟩
abbrev main_call27_v3 : Ref sig .tc := ⟨.hbm, 1262, rfl⟩
abbrev main_call27_v4 : Ref sig .tc := ⟨.hbm, 1263, rfl⟩
abbrev main_v824 : Ref sig .tc := ⟨.hbm, 1264, rfl⟩
abbrev main_c_270 : Ref sig .tc := ⟨.hbm, 1265, rfl⟩
abbrev main_v825 : Ref sig .tc := ⟨.hbm, 1266, rfl⟩
abbrev main_v826 : Ref sig .tc := ⟨.hbm, 1267, rfl⟩
abbrev main_c_271 : Ref sig .tc := ⟨.hbm, 1268, rfl⟩
abbrev main_v827 : Ref sig .tc := ⟨.hbm, 1269, rfl⟩
abbrev main_v828 : Ref sig .tc := ⟨.hbm, 1270, rfl⟩
abbrev main_v829 : Ref sig .tc := ⟨.hbm, 1271, rfl⟩
abbrev main_c_272 : Ref sig .tc := ⟨.hbm, 1272, rfl⟩
abbrev main_v830 : Ref sig .tc := ⟨.hbm, 1273, rfl⟩
abbrev main_v831 : Ref sig .tc := ⟨.hbm, 1274, rfl⟩
abbrev main_c_273 : Ref sig .tc := ⟨.hbm, 1275, rfl⟩
abbrev main_v832 : Ref sig .tc := ⟨.hbm, 1276, rfl⟩
abbrev main_v833 : Ref sig .tc := ⟨.hbm, 1277, rfl⟩
abbrev main_v834 : Ref sig .tc := ⟨.hbm, 1278, rfl⟩
abbrev main_v835 : Ref sig .tc := ⟨.hbm, 1279, rfl⟩
abbrev main_v836 : Ref sig .tc := ⟨.hbm, 1280, rfl⟩
abbrev main_v837 : Ref sig .tc := ⟨.hbm, 1281, rfl⟩
abbrev main_v838 : Ref sig .tc := ⟨.hbm, 1282, rfl⟩
abbrev main_c_274 : Ref sig .tc := ⟨.hbm, 1283, rfl⟩
abbrev main_v839 : Ref sig .tc := ⟨.hbm, 1284, rfl⟩
abbrev main_v840 : Ref sig .tc := ⟨.hbm, 1285, rfl⟩
abbrev main_c_275 : Ref sig .tc := ⟨.hbm, 1286, rfl⟩
abbrev main_v841 : Ref sig .tc := ⟨.hbm, 1287, rfl⟩
abbrev main_v842 : Ref sig .tc := ⟨.hbm, 1288, rfl⟩
abbrev main_v843 : Ref sig .tc := ⟨.hbm, 1289, rfl⟩
abbrev main_c_276 : Ref sig .tc := ⟨.hbm, 1290, rfl⟩
abbrev main_v844 : Ref sig .tc := ⟨.hbm, 1291, rfl⟩
abbrev main_v845 : Ref sig .tc := ⟨.hbm, 1292, rfl⟩
abbrev main_c_277 : Ref sig .tc := ⟨.hbm, 1293, rfl⟩
abbrev main_v846 : Ref sig .tc := ⟨.hbm, 1294, rfl⟩
abbrev main_v847 : Ref sig .tc := ⟨.hbm, 1295, rfl⟩
abbrev main_v848 : Ref sig .tc := ⟨.hbm, 1296, rfl⟩
abbrev main_v849 : Ref sig .tc := ⟨.hbm, 1297, rfl⟩
abbrev main_v850 : Ref sig .tc := ⟨.hbm, 1298, rfl⟩
abbrev main_v851 : Ref sig .tc := ⟨.hbm, 1299, rfl⟩
abbrev main_v852 : Ref sig .tc := ⟨.hbm, 1300, rfl⟩
abbrev main_c_278 : Ref sig .tc := ⟨.hbm, 1301, rfl⟩
abbrev main_v853 : Ref sig .tc := ⟨.hbm, 1302, rfl⟩
abbrev main_v854 : Ref sig .tc := ⟨.hbm, 1303, rfl⟩
abbrev main_c_279 : Ref sig .tc := ⟨.hbm, 1304, rfl⟩
abbrev main_v855 : Ref sig .tc := ⟨.hbm, 1305, rfl⟩
abbrev main_v856 : Ref sig .tc := ⟨.hbm, 1306, rfl⟩
abbrev main_v857 : Ref sig .tc := ⟨.hbm, 1307, rfl⟩
abbrev main_c_280 : Ref sig .tc := ⟨.hbm, 1308, rfl⟩
abbrev main_v858 : Ref sig .tc := ⟨.hbm, 1309, rfl⟩
abbrev main_v859 : Ref sig .tc := ⟨.hbm, 1310, rfl⟩
abbrev main_c_281 : Ref sig .tc := ⟨.hbm, 1311, rfl⟩
abbrev main_v860 : Ref sig .tc := ⟨.hbm, 1312, rfl⟩
abbrev main_v861 : Ref sig .tc := ⟨.hbm, 1313, rfl⟩
abbrev main_v862 : Ref sig .tc := ⟨.hbm, 1314, rfl⟩
abbrev main_v863 : Ref sig .tc := ⟨.hbm, 1315, rfl⟩
abbrev main_v864 : Ref sig .tc := ⟨.hbm, 1316, rfl⟩
abbrev main_v865 : Ref sig .tc := ⟨.hbm, 1317, rfl⟩
abbrev main_v866 : Ref sig .tc := ⟨.hbm, 1318, rfl⟩
abbrev main_c_282 : Ref sig .tc := ⟨.hbm, 1319, rfl⟩
abbrev main_v867 : Ref sig .tc := ⟨.hbm, 1320, rfl⟩
abbrev main_v868 : Ref sig .tc := ⟨.hbm, 1321, rfl⟩
abbrev main_c_283 : Ref sig .tc := ⟨.hbm, 1322, rfl⟩
abbrev main_v869 : Ref sig .tc := ⟨.hbm, 1323, rfl⟩
abbrev main_v870 : Ref sig .tc := ⟨.hbm, 1324, rfl⟩
abbrev main_v871 : Ref sig .tc := ⟨.hbm, 1325, rfl⟩
abbrev main_c_284 : Ref sig .tc := ⟨.hbm, 1326, rfl⟩
abbrev main_v872 : Ref sig .tc := ⟨.hbm, 1327, rfl⟩
abbrev main_v873 : Ref sig .tc := ⟨.hbm, 1328, rfl⟩
abbrev main_c_285 : Ref sig .tc := ⟨.hbm, 1329, rfl⟩
abbrev main_v874 : Ref sig .tc := ⟨.hbm, 1330, rfl⟩
abbrev main_v875 : Ref sig .tc := ⟨.hbm, 1331, rfl⟩
abbrev main_v876 : Ref sig .tc := ⟨.hbm, 1332, rfl⟩
abbrev main_v877 : Ref sig .tc := ⟨.hbm, 1333, rfl⟩
abbrev main_v878 : Ref sig .tc := ⟨.hbm, 1334, rfl⟩
abbrev main_v879 : Ref sig .tc := ⟨.hbm, 1335, rfl⟩
abbrev main_v880 : Ref sig .tc := ⟨.hbm, 1336, rfl⟩
abbrev main_cst_286 : Ref sig .tc := ⟨.hbm, 1337, rfl⟩
abbrev main_v881 : Ref sig .tc := ⟨.hbm, 1338, rfl⟩
abbrev main_v882 : Ref sig .tc := ⟨.hbm, 1339, rfl⟩
abbrev main_v883 : Ref sig .tc := ⟨.hbm, 1340, rfl⟩
abbrev main_v884 : Ref sig .tc := ⟨.hbm, 1341, rfl⟩
abbrev main_v885 : Ref sig .tc := ⟨.hbm, 1342, rfl⟩
abbrev main_cst_287 : Ref sig .tc := ⟨.hbm, 1343, rfl⟩
abbrev main_v886 : Ref sig .tc := ⟨.hbm, 1344, rfl⟩
abbrev main_v887 : Ref sig .tc := ⟨.hbm, 1345, rfl⟩
abbrev main_v888 : Ref sig .tc := ⟨.hbm, 1346, rfl⟩
abbrev main_v889 : Ref sig .tc := ⟨.hbm, 1347, rfl⟩
abbrev main_v890 : Ref sig .tc := ⟨.hbm, 1348, rfl⟩
abbrev main_v891 : Ref sig .tc := ⟨.hbm, 1349, rfl⟩
abbrev main_v892 : Ref sig .tc := ⟨.hbm, 1350, rfl⟩
abbrev main_v893 : Ref sig .tc := ⟨.hbm, 1351, rfl⟩
abbrev main_cst_288 : Ref sig .tc := ⟨.hbm, 1352, rfl⟩
abbrev main_v894 : Ref sig .tc := ⟨.hbm, 1353, rfl⟩
abbrev main_v895 : Ref sig .tc := ⟨.hbm, 1354, rfl⟩
abbrev main_v896 : Ref sig .tc := ⟨.hbm, 1355, rfl⟩
abbrev main_v897 : Ref sig .tc := ⟨.hbm, 1356, rfl⟩
abbrev main_v898 : Ref sig .tc := ⟨.hbm, 1357, rfl⟩
abbrev main_v899 : Ref sig .tc := ⟨.hbm, 1358, rfl⟩
abbrev main_cst_289 : Ref sig .tc := ⟨.hbm, 1359, rfl⟩
abbrev main_v900 : Ref sig .tc := ⟨.hbm, 1360, rfl⟩
abbrev main_v901 : Ref sig .tc := ⟨.hbm, 1361, rfl⟩
abbrev main_v902 : Ref sig .tc := ⟨.hbm, 1362, rfl⟩
abbrev main_v903 : Ref sig .tc := ⟨.hbm, 1363, rfl⟩
abbrev main_v904 : Ref sig .tc := ⟨.hbm, 1364, rfl⟩
abbrev main_v905 : Ref sig .tc := ⟨.hbm, 1365, rfl⟩
abbrev main_v906 : Ref sig .tc := ⟨.hbm, 1366, rfl⟩
abbrev main_v907 : Ref sig .tc := ⟨.hbm, 1367, rfl⟩
abbrev main_v908 : Ref sig .tc := ⟨.hbm, 1368, rfl⟩
abbrev main_v909 : Ref sig .tc := ⟨.hbm, 1369, rfl⟩
abbrev main_v910 : Ref sig .tc := ⟨.hbm, 1370, rfl⟩
abbrev main_v911 : Ref sig .tc := ⟨.hbm, 1371, rfl⟩
abbrev main_v912 : Ref sig .tc := ⟨.hbm, 1372, rfl⟩
abbrev main_v913 : Ref sig .tc := ⟨.hbm, 1373, rfl⟩
abbrev main_v914 : Ref sig .tc := ⟨.hbm, 1374, rfl⟩
abbrev main_v915 : Ref sig .tc := ⟨.hbm, 1375, rfl⟩
abbrev main_v916 : Ref sig .tc := ⟨.hbm, 1376, rfl⟩
abbrev main_c_290 : Ref sig .tc := ⟨.hbm, 1377, rfl⟩
abbrev main_v917 : Ref sig .tc := ⟨.hbm, 1378, rfl⟩
abbrev main_v918 : Ref sig .tc := ⟨.hbm, 1379, rfl⟩
abbrev main_c_291 : Ref sig .tc := ⟨.hbm, 1380, rfl⟩
abbrev main_v919 : Ref sig .tc := ⟨.hbm, 1381, rfl⟩
abbrev main_v920 : Ref sig .tc := ⟨.hbm, 1382, rfl⟩
abbrev main_v921 : Ref sig .tc := ⟨.hbm, 1383, rfl⟩
abbrev main_v922 : Ref sig .tc := ⟨.hbm, 1384, rfl⟩
abbrev main_v923 : Ref sig .tc := ⟨.hbm, 1385, rfl⟩
abbrev main_v924 : Ref sig .tc := ⟨.hbm, 1386, rfl⟩
abbrev main_v925 : Ref sig .tc := ⟨.hbm, 1387, rfl⟩
abbrev main_cst_292 : Ref sig .tc := ⟨.hbm, 1388, rfl⟩
abbrev main_v926 : Ref sig .tc := ⟨.hbm, 1389, rfl⟩
abbrev main_v927 : Ref sig .tc := ⟨.hbm, 1390, rfl⟩
abbrev main_cst_293 : Ref sig .tc := ⟨.hbm, 1391, rfl⟩
abbrev main_v928 : Ref sig .tc := ⟨.hbm, 1392, rfl⟩
abbrev main_v929 : Ref sig .tc := ⟨.hbm, 1393, rfl⟩
abbrev main_cst_294 : Ref sig .tc := ⟨.hbm, 1394, rfl⟩
abbrev main_v930 : Ref sig .tc := ⟨.hbm, 1395, rfl⟩
abbrev main_v931 : Ref sig .tc := ⟨.hbm, 1396, rfl⟩
abbrev main_v932 : Ref sig .tc := ⟨.hbm, 1397, rfl⟩
abbrev main_v933 : Ref sig .tc := ⟨.hbm, 1398, rfl⟩
abbrev main_cst_295 : Ref sig .tc := ⟨.hbm, 1399, rfl⟩
abbrev main_v934 : Ref sig .tc := ⟨.hbm, 1400, rfl⟩
abbrev main_v935 : Ref sig .tc := ⟨.hbm, 1401, rfl⟩
abbrev main_cst_296 : Ref sig .tc := ⟨.hbm, 1402, rfl⟩
abbrev main_v936 : Ref sig .tc := ⟨.hbm, 1403, rfl⟩
abbrev main_v937 : Ref sig .tc := ⟨.hbm, 1404, rfl⟩
abbrev main_cst_297 : Ref sig .tc := ⟨.hbm, 1405, rfl⟩
abbrev main_v938 : Ref sig .tc := ⟨.hbm, 1406, rfl⟩
abbrev main_v939 : Ref sig .tc := ⟨.hbm, 1407, rfl⟩
abbrev main_v940 : Ref sig .tc := ⟨.hbm, 1408, rfl⟩
abbrev main_v941 : Ref sig .tc := ⟨.hbm, 1409, rfl⟩
abbrev main_v942 : Ref sig .tc := ⟨.hbm, 1410, rfl⟩
abbrev main_v943 : Ref sig .tc := ⟨.hbm, 1411, rfl⟩
abbrev main_v944 : Ref sig .tc := ⟨.hbm, 1412, rfl⟩
abbrev main_c_298 : Ref sig .tc := ⟨.hbm, 1413, rfl⟩
abbrev main_c_299 : Ref sig .tc := ⟨.hbm, 1414, rfl⟩
abbrev main_call28_v0 : Ref sig .tc := ⟨.hbm, 1415, rfl⟩
abbrev main_call28_v1 : Ref sig .tc := ⟨.hbm, 1416, rfl⟩
abbrev main_call28_v2 : Ref sig .tc := ⟨.hbm, 1417, rfl⟩
abbrev main_call28_v3 : Ref sig .tc := ⟨.hbm, 1418, rfl⟩
abbrev main_call28_v4 : Ref sig .tc := ⟨.hbm, 1419, rfl⟩
abbrev main_v945 : Ref sig .tc := ⟨.hbm, 1420, rfl⟩
abbrev main_c_300 : Ref sig .tc := ⟨.hbm, 1421, rfl⟩
abbrev main_v946 : Ref sig .tc := ⟨.hbm, 1422, rfl⟩
abbrev main_v947 : Ref sig .tc := ⟨.hbm, 1423, rfl⟩
abbrev main_c_301 : Ref sig .tc := ⟨.hbm, 1424, rfl⟩
abbrev main_c_302 : Ref sig .tc := ⟨.hbm, 1425, rfl⟩
abbrev main_call29_v0 : Ref sig .tc := ⟨.hbm, 1426, rfl⟩
abbrev main_call29_v1 : Ref sig .tc := ⟨.hbm, 1427, rfl⟩
abbrev main_call29_v2 : Ref sig .tc := ⟨.hbm, 1428, rfl⟩
abbrev main_call29_v3 : Ref sig .tc := ⟨.hbm, 1429, rfl⟩
abbrev main_call29_v4 : Ref sig .tc := ⟨.hbm, 1430, rfl⟩
abbrev main_v948 : Ref sig .tc := ⟨.hbm, 1431, rfl⟩
abbrev main_v949 : Ref sig .tc := ⟨.hbm, 1432, rfl⟩
abbrev main_c_303 : Ref sig .tc := ⟨.hbm, 1433, rfl⟩
abbrev main_c_304 : Ref sig .tc := ⟨.hbm, 1434, rfl⟩
abbrev main_call30_v0 : Ref sig .tc := ⟨.hbm, 1435, rfl⟩
abbrev main_call30_v1 : Ref sig .tc := ⟨.hbm, 1436, rfl⟩
abbrev main_call30_v2 : Ref sig .tc := ⟨.hbm, 1437, rfl⟩
abbrev main_call30_v3 : Ref sig .tc := ⟨.hbm, 1438, rfl⟩
abbrev main_call30_v4 : Ref sig .tc := ⟨.hbm, 1439, rfl⟩
abbrev main_v950 : Ref sig .tc := ⟨.hbm, 1440, rfl⟩
abbrev main_c_305 : Ref sig .tc := ⟨.hbm, 1441, rfl⟩
abbrev main_v951 : Ref sig .tc := ⟨.hbm, 1442, rfl⟩
abbrev main_v952 : Ref sig .tc := ⟨.hbm, 1443, rfl⟩
abbrev main_c_306 : Ref sig .tc := ⟨.hbm, 1444, rfl⟩
abbrev main_c_307 : Ref sig .tc := ⟨.hbm, 1445, rfl⟩
abbrev main_call31_v0 : Ref sig .tc := ⟨.hbm, 1446, rfl⟩
abbrev main_call31_v1 : Ref sig .tc := ⟨.hbm, 1447, rfl⟩
abbrev main_call31_v2 : Ref sig .tc := ⟨.hbm, 1448, rfl⟩
abbrev main_call31_v3 : Ref sig .tc := ⟨.hbm, 1449, rfl⟩
abbrev main_call31_v4 : Ref sig .tc := ⟨.hbm, 1450, rfl⟩
abbrev main_v953 : Ref sig .tc := ⟨.hbm, 1451, rfl⟩
abbrev main_c_308 : Ref sig .tc := ⟨.hbm, 1452, rfl⟩
abbrev main_v954 : Ref sig .tc := ⟨.hbm, 1453, rfl⟩
abbrev main_v955 : Ref sig .tc := ⟨.hbm, 1454, rfl⟩
abbrev main_c_309 : Ref sig .tc := ⟨.hbm, 1455, rfl⟩
abbrev main_v956 : Ref sig .tc := ⟨.hbm, 1456, rfl⟩
abbrev main_v957 : Ref sig .tc := ⟨.hbm, 1457, rfl⟩
abbrev main_v958 : Ref sig .tc := ⟨.hbm, 1458, rfl⟩
abbrev main_c_310 : Ref sig .tc := ⟨.hbm, 1459, rfl⟩
abbrev main_v959 : Ref sig .tc := ⟨.hbm, 1460, rfl⟩
abbrev main_v960 : Ref sig .tc := ⟨.hbm, 1461, rfl⟩
abbrev main_c_311 : Ref sig .tc := ⟨.hbm, 1462, rfl⟩
abbrev main_v961 : Ref sig .tc := ⟨.hbm, 1463, rfl⟩
abbrev main_v962 : Ref sig .tc := ⟨.hbm, 1464, rfl⟩
abbrev main_v963 : Ref sig .tc := ⟨.hbm, 1465, rfl⟩
abbrev main_v964 : Ref sig .tc := ⟨.hbm, 1466, rfl⟩
abbrev main_v965 : Ref sig .tc := ⟨.hbm, 1467, rfl⟩
abbrev main_v966 : Ref sig .tc := ⟨.hbm, 1468, rfl⟩
abbrev main_v967 : Ref sig .tc := ⟨.hbm, 1469, rfl⟩
abbrev main_c_312 : Ref sig .tc := ⟨.hbm, 1470, rfl⟩
abbrev main_v968 : Ref sig .tc := ⟨.hbm, 1471, rfl⟩
abbrev main_v969 : Ref sig .tc := ⟨.hbm, 1472, rfl⟩
abbrev main_c_313 : Ref sig .tc := ⟨.hbm, 1473, rfl⟩
abbrev main_v970 : Ref sig .tc := ⟨.hbm, 1474, rfl⟩
abbrev main_v971 : Ref sig .tc := ⟨.hbm, 1475, rfl⟩
abbrev main_v972 : Ref sig .tc := ⟨.hbm, 1476, rfl⟩
abbrev main_c_314 : Ref sig .tc := ⟨.hbm, 1477, rfl⟩
abbrev main_v973 : Ref sig .tc := ⟨.hbm, 1478, rfl⟩
abbrev main_v974 : Ref sig .tc := ⟨.hbm, 1479, rfl⟩
abbrev main_c_315 : Ref sig .tc := ⟨.hbm, 1480, rfl⟩
abbrev main_v975 : Ref sig .tc := ⟨.hbm, 1481, rfl⟩
abbrev main_v976 : Ref sig .tc := ⟨.hbm, 1482, rfl⟩
abbrev main_v977 : Ref sig .tc := ⟨.hbm, 1483, rfl⟩
abbrev main_v978 : Ref sig .tc := ⟨.hbm, 1484, rfl⟩
abbrev main_v979 : Ref sig .tc := ⟨.hbm, 1485, rfl⟩
abbrev main_v980 : Ref sig .tc := ⟨.hbm, 1486, rfl⟩
abbrev main_v981 : Ref sig .tc := ⟨.hbm, 1487, rfl⟩
abbrev main_c_316 : Ref sig .tc := ⟨.hbm, 1488, rfl⟩
abbrev main_v982 : Ref sig .tc := ⟨.hbm, 1489, rfl⟩
abbrev main_v983 : Ref sig .tc := ⟨.hbm, 1490, rfl⟩
abbrev main_c_317 : Ref sig .tc := ⟨.hbm, 1491, rfl⟩
abbrev main_v984 : Ref sig .tc := ⟨.hbm, 1492, rfl⟩
abbrev main_v985 : Ref sig .tc := ⟨.hbm, 1493, rfl⟩
abbrev main_v986 : Ref sig .tc := ⟨.hbm, 1494, rfl⟩
abbrev main_c_318 : Ref sig .tc := ⟨.hbm, 1495, rfl⟩
abbrev main_v987 : Ref sig .tc := ⟨.hbm, 1496, rfl⟩
abbrev main_v988 : Ref sig .tc := ⟨.hbm, 1497, rfl⟩
abbrev main_c_319 : Ref sig .tc := ⟨.hbm, 1498, rfl⟩
abbrev main_v989 : Ref sig .tc := ⟨.hbm, 1499, rfl⟩
abbrev main_v990 : Ref sig .tc := ⟨.hbm, 1500, rfl⟩
abbrev main_v991 : Ref sig .tc := ⟨.hbm, 1501, rfl⟩
abbrev main_v992 : Ref sig .tc := ⟨.hbm, 1502, rfl⟩
abbrev main_v993 : Ref sig .tc := ⟨.hbm, 1503, rfl⟩
abbrev main_v994 : Ref sig .tc := ⟨.hbm, 1504, rfl⟩
abbrev main_v995 : Ref sig .tc := ⟨.hbm, 1505, rfl⟩
abbrev main_c_320 : Ref sig .tc := ⟨.hbm, 1506, rfl⟩
abbrev main_v996 : Ref sig .tc := ⟨.hbm, 1507, rfl⟩
abbrev main_v997 : Ref sig .tc := ⟨.hbm, 1508, rfl⟩
abbrev main_c_321 : Ref sig .tc := ⟨.hbm, 1509, rfl⟩
abbrev main_v998 : Ref sig .tc := ⟨.hbm, 1510, rfl⟩
abbrev main_v999 : Ref sig .tc := ⟨.hbm, 1511, rfl⟩
abbrev main_v1000 : Ref sig .tc := ⟨.hbm, 1512, rfl⟩
abbrev main_c_322 : Ref sig .tc := ⟨.hbm, 1513, rfl⟩
abbrev main_v1001 : Ref sig .tc := ⟨.hbm, 1514, rfl⟩
abbrev main_v1002 : Ref sig .tc := ⟨.hbm, 1515, rfl⟩
abbrev main_c_323 : Ref sig .tc := ⟨.hbm, 1516, rfl⟩
abbrev main_v1003 : Ref sig .tc := ⟨.hbm, 1517, rfl⟩
abbrev main_v1004 : Ref sig .tc := ⟨.hbm, 1518, rfl⟩
abbrev main_v1005 : Ref sig .tc := ⟨.hbm, 1519, rfl⟩
abbrev main_v1006 : Ref sig .tc := ⟨.hbm, 1520, rfl⟩
abbrev main_v1007 : Ref sig .tc := ⟨.hbm, 1521, rfl⟩
abbrev main_v1008 : Ref sig .tc := ⟨.hbm, 1522, rfl⟩
abbrev main_v1009 : Ref sig .tc := ⟨.hbm, 1523, rfl⟩
abbrev main_cst_324 : Ref sig .tc := ⟨.hbm, 1524, rfl⟩
abbrev main_v1010 : Ref sig .tc := ⟨.hbm, 1525, rfl⟩
abbrev main_v1011 : Ref sig .tc := ⟨.hbm, 1526, rfl⟩
abbrev main_v1012 : Ref sig .tc := ⟨.hbm, 1527, rfl⟩
abbrev main_v1013 : Ref sig .tc := ⟨.hbm, 1528, rfl⟩
abbrev main_v1014 : Ref sig .tc := ⟨.hbm, 1529, rfl⟩
abbrev main_cst_325 : Ref sig .tc := ⟨.hbm, 1530, rfl⟩
abbrev main_v1015 : Ref sig .tc := ⟨.hbm, 1531, rfl⟩
abbrev main_v1016 : Ref sig .tc := ⟨.hbm, 1532, rfl⟩
abbrev main_v1017 : Ref sig .tc := ⟨.hbm, 1533, rfl⟩
abbrev main_v1018 : Ref sig .tc := ⟨.hbm, 1534, rfl⟩
abbrev main_v1019 : Ref sig .tc := ⟨.hbm, 1535, rfl⟩
abbrev main_v1020 : Ref sig .tc := ⟨.hbm, 1536, rfl⟩
abbrev main_v1021 : Ref sig .tc := ⟨.hbm, 1537, rfl⟩
abbrev main_v1022 : Ref sig .tc := ⟨.hbm, 1538, rfl⟩
abbrev main_cst_326 : Ref sig .tc := ⟨.hbm, 1539, rfl⟩
abbrev main_v1023 : Ref sig .tc := ⟨.hbm, 1540, rfl⟩
abbrev main_v1024 : Ref sig .tc := ⟨.hbm, 1541, rfl⟩
abbrev main_v1025 : Ref sig .tc := ⟨.hbm, 1542, rfl⟩
abbrev main_v1026 : Ref sig .tc := ⟨.hbm, 1543, rfl⟩
abbrev main_v1027 : Ref sig .tc := ⟨.hbm, 1544, rfl⟩
abbrev main_v1028 : Ref sig .tc := ⟨.hbm, 1545, rfl⟩
abbrev main_cst_327 : Ref sig .tc := ⟨.hbm, 1546, rfl⟩
abbrev main_v1029 : Ref sig .tc := ⟨.hbm, 1547, rfl⟩
abbrev main_v1030 : Ref sig .tc := ⟨.hbm, 1548, rfl⟩
abbrev main_v1031 : Ref sig .tc := ⟨.hbm, 1549, rfl⟩
abbrev main_v1032 : Ref sig .tc := ⟨.hbm, 1550, rfl⟩
abbrev main_v1033 : Ref sig .tc := ⟨.hbm, 1551, rfl⟩
abbrev main_v1034 : Ref sig .tc := ⟨.hbm, 1552, rfl⟩
abbrev main_v1035 : Ref sig .tc := ⟨.hbm, 1553, rfl⟩
abbrev main_v1036 : Ref sig .tc := ⟨.hbm, 1554, rfl⟩
abbrev main_v1037 : Ref sig .tc := ⟨.hbm, 1555, rfl⟩
abbrev main_v1038 : Ref sig .tc := ⟨.hbm, 1556, rfl⟩
abbrev main_v1039 : Ref sig .tc := ⟨.hbm, 1557, rfl⟩
abbrev main_v1040 : Ref sig .tc := ⟨.hbm, 1558, rfl⟩
abbrev main_v1041 : Ref sig .tc := ⟨.hbm, 1559, rfl⟩
abbrev main_v1042 : Ref sig .tc := ⟨.hbm, 1560, rfl⟩
abbrev main_v1043 : Ref sig .tc := ⟨.hbm, 1561, rfl⟩
abbrev main_v1044 : Ref sig .tc := ⟨.hbm, 1562, rfl⟩
abbrev main_v1045 : Ref sig .tc := ⟨.hbm, 1563, rfl⟩
abbrev main_v1046 : Ref sig .tc := ⟨.hbm, 1564, rfl⟩
abbrev main_c_328 : Ref sig .tc := ⟨.hbm, 1565, rfl⟩
abbrev main_v1047 : Ref sig .tc := ⟨.hbm, 1566, rfl⟩
abbrev main_v1048 : Ref sig .tc := ⟨.hbm, 1567, rfl⟩
abbrev main_c_329 : Ref sig .tc := ⟨.hbm, 1568, rfl⟩
abbrev main_v1049 : Ref sig .tc := ⟨.hbm, 1569, rfl⟩
abbrev main_v1050 : Ref sig .tc := ⟨.hbm, 1570, rfl⟩
abbrev main_v1051 : Ref sig .tc := ⟨.hbm, 1571, rfl⟩
abbrev main_v1052 : Ref sig .tc := ⟨.hbm, 1572, rfl⟩
abbrev main_v1053 : Ref sig .tc := ⟨.hbm, 1573, rfl⟩
abbrev main_v1054 : Ref sig .tc := ⟨.hbm, 1574, rfl⟩
abbrev main_v1055 : Ref sig .tc := ⟨.hbm, 1575, rfl⟩
abbrev main_cst_330 : Ref sig .tc := ⟨.hbm, 1576, rfl⟩
abbrev main_v1056 : Ref sig .tc := ⟨.hbm, 1577, rfl⟩
abbrev main_v1057 : Ref sig .tc := ⟨.hbm, 1578, rfl⟩
abbrev main_cst_331 : Ref sig .tc := ⟨.hbm, 1579, rfl⟩
abbrev main_v1058 : Ref sig .tc := ⟨.hbm, 1580, rfl⟩
abbrev main_v1059 : Ref sig .tc := ⟨.hbm, 1581, rfl⟩
abbrev main_cst_332 : Ref sig .tc := ⟨.hbm, 1582, rfl⟩
abbrev main_v1060 : Ref sig .tc := ⟨.hbm, 1583, rfl⟩
abbrev main_v1061 : Ref sig .tc := ⟨.hbm, 1584, rfl⟩
abbrev main_v1062 : Ref sig .tc := ⟨.hbm, 1585, rfl⟩
abbrev main_v1063 : Ref sig .tc := ⟨.hbm, 1586, rfl⟩
abbrev main_cst_333 : Ref sig .tc := ⟨.hbm, 1587, rfl⟩
abbrev main_v1064 : Ref sig .tc := ⟨.hbm, 1588, rfl⟩
abbrev main_v1065 : Ref sig .tc := ⟨.hbm, 1589, rfl⟩
abbrev main_cst_334 : Ref sig .tc := ⟨.hbm, 1590, rfl⟩
abbrev main_v1066 : Ref sig .tc := ⟨.hbm, 1591, rfl⟩
abbrev main_v1067 : Ref sig .tc := ⟨.hbm, 1592, rfl⟩
abbrev main_cst_335 : Ref sig .tc := ⟨.hbm, 1593, rfl⟩
abbrev main_v1068 : Ref sig .tc := ⟨.hbm, 1594, rfl⟩
abbrev main_v1069 : Ref sig .tc := ⟨.hbm, 1595, rfl⟩
abbrev main_v1070 : Ref sig .tc := ⟨.hbm, 1596, rfl⟩
abbrev main_v1071 : Ref sig .tc := ⟨.hbm, 1597, rfl⟩
abbrev main_v1072 : Ref sig .tc := ⟨.hbm, 1598, rfl⟩
abbrev main_v1073 : Ref sig .tc := ⟨.hbm, 1599, rfl⟩
abbrev main_v1074 : Ref sig .tc := ⟨.hbm, 1600, rfl⟩
abbrev main_c_336 : Ref sig .tc := ⟨.hbm, 1601, rfl⟩
abbrev main_c_337 : Ref sig .tc := ⟨.hbm, 1602, rfl⟩
abbrev main_call32_v0 : Ref sig .tc := ⟨.hbm, 1603, rfl⟩
abbrev main_call32_v1 : Ref sig .tc := ⟨.hbm, 1604, rfl⟩
abbrev main_call32_v2 : Ref sig .tc := ⟨.hbm, 1605, rfl⟩
abbrev main_call32_v3 : Ref sig .tc := ⟨.hbm, 1606, rfl⟩
abbrev main_call32_v4 : Ref sig .tc := ⟨.hbm, 1607, rfl⟩
abbrev main_v1075 : Ref sig .tc := ⟨.hbm, 1608, rfl⟩
abbrev main_c_338 : Ref sig .tc := ⟨.hbm, 1609, rfl⟩
abbrev main_v1076 : Ref sig .tc := ⟨.hbm, 1610, rfl⟩
abbrev main_v1077 : Ref sig .tc := ⟨.hbm, 1611, rfl⟩
abbrev main_c_339 : Ref sig .tc := ⟨.hbm, 1612, rfl⟩
abbrev main_c_340 : Ref sig .tc := ⟨.hbm, 1613, rfl⟩
abbrev main_call33_v0 : Ref sig .tc := ⟨.hbm, 1614, rfl⟩
abbrev main_call33_v1 : Ref sig .tc := ⟨.hbm, 1615, rfl⟩
abbrev main_call33_v2 : Ref sig .tc := ⟨.hbm, 1616, rfl⟩
abbrev main_call33_v3 : Ref sig .tc := ⟨.hbm, 1617, rfl⟩
abbrev main_call33_v4 : Ref sig .tc := ⟨.hbm, 1618, rfl⟩
abbrev main_v1078 : Ref sig .tc := ⟨.hbm, 1619, rfl⟩
abbrev main_v1079 : Ref sig .tc := ⟨.hbm, 1620, rfl⟩
abbrev main_c_341 : Ref sig .tc := ⟨.hbm, 1621, rfl⟩
abbrev main_c_342 : Ref sig .tc := ⟨.hbm, 1622, rfl⟩
abbrev main_call34_v0 : Ref sig .tc := ⟨.hbm, 1623, rfl⟩
abbrev main_call34_v1 : Ref sig .tc := ⟨.hbm, 1624, rfl⟩
abbrev main_call34_v2 : Ref sig .tc := ⟨.hbm, 1625, rfl⟩
abbrev main_call34_v3 : Ref sig .tc := ⟨.hbm, 1626, rfl⟩
abbrev main_call34_v4 : Ref sig .tc := ⟨.hbm, 1627, rfl⟩
abbrev main_v1080 : Ref sig .tc := ⟨.hbm, 1628, rfl⟩
abbrev main_c_343 : Ref sig .tc := ⟨.hbm, 1629, rfl⟩
abbrev main_v1081 : Ref sig .tc := ⟨.hbm, 1630, rfl⟩
abbrev main_v1082 : Ref sig .tc := ⟨.hbm, 1631, rfl⟩
abbrev main_c_344 : Ref sig .tc := ⟨.hbm, 1632, rfl⟩
abbrev main_c_345 : Ref sig .tc := ⟨.hbm, 1633, rfl⟩
abbrev main_call35_v0 : Ref sig .tc := ⟨.hbm, 1634, rfl⟩
abbrev main_call35_v1 : Ref sig .tc := ⟨.hbm, 1635, rfl⟩
abbrev main_call35_v2 : Ref sig .tc := ⟨.hbm, 1636, rfl⟩
abbrev main_call35_v3 : Ref sig .tc := ⟨.hbm, 1637, rfl⟩
abbrev main_call35_v4 : Ref sig .tc := ⟨.hbm, 1638, rfl⟩
abbrev main_v1083 : Ref sig .tc := ⟨.hbm, 1639, rfl⟩
abbrev main_c_346 : Ref sig .tc := ⟨.hbm, 1640, rfl⟩
abbrev main_v1084 : Ref sig .tc := ⟨.hbm, 1641, rfl⟩
abbrev main_v1085 : Ref sig .tc := ⟨.hbm, 1642, rfl⟩
abbrev main_c_347 : Ref sig .tc := ⟨.hbm, 1643, rfl⟩
abbrev main_v1086 : Ref sig .tc := ⟨.hbm, 1644, rfl⟩
abbrev main_v1087 : Ref sig .tc := ⟨.hbm, 1645, rfl⟩
abbrev main_v1088 : Ref sig .tc := ⟨.hbm, 1646, rfl⟩
abbrev main_c_348 : Ref sig .tc := ⟨.hbm, 1647, rfl⟩
abbrev main_v1089 : Ref sig .tc := ⟨.hbm, 1648, rfl⟩
abbrev main_v1090 : Ref sig .tc := ⟨.hbm, 1649, rfl⟩
abbrev main_c_349 : Ref sig .tc := ⟨.hbm, 1650, rfl⟩
abbrev main_v1091 : Ref sig .tc := ⟨.hbm, 1651, rfl⟩
abbrev main_v1092 : Ref sig .tc := ⟨.hbm, 1652, rfl⟩
abbrev main_v1093 : Ref sig .tc := ⟨.hbm, 1653, rfl⟩
abbrev main_v1094 : Ref sig .tc := ⟨.hbm, 1654, rfl⟩
abbrev main_v1095 : Ref sig .tc := ⟨.hbm, 1655, rfl⟩
abbrev main_v1096 : Ref sig .tc := ⟨.hbm, 1656, rfl⟩
abbrev main_v1097 : Ref sig .tc := ⟨.hbm, 1657, rfl⟩
abbrev main_c_350 : Ref sig .tc := ⟨.hbm, 1658, rfl⟩
abbrev main_v1098 : Ref sig .tc := ⟨.hbm, 1659, rfl⟩
abbrev main_v1099 : Ref sig .tc := ⟨.hbm, 1660, rfl⟩
abbrev main_c_351 : Ref sig .tc := ⟨.hbm, 1661, rfl⟩
abbrev main_v1100 : Ref sig .tc := ⟨.hbm, 1662, rfl⟩
abbrev main_v1101 : Ref sig .tc := ⟨.hbm, 1663, rfl⟩
abbrev main_v1102 : Ref sig .tc := ⟨.hbm, 1664, rfl⟩
abbrev main_c_352 : Ref sig .tc := ⟨.hbm, 1665, rfl⟩
abbrev main_v1103 : Ref sig .tc := ⟨.hbm, 1666, rfl⟩
abbrev main_v1104 : Ref sig .tc := ⟨.hbm, 1667, rfl⟩
abbrev main_c_353 : Ref sig .tc := ⟨.hbm, 1668, rfl⟩
abbrev main_v1105 : Ref sig .tc := ⟨.hbm, 1669, rfl⟩
abbrev main_v1106 : Ref sig .tc := ⟨.hbm, 1670, rfl⟩
abbrev main_v1107 : Ref sig .tc := ⟨.hbm, 1671, rfl⟩
abbrev main_v1108 : Ref sig .tc := ⟨.hbm, 1672, rfl⟩
abbrev main_v1109 : Ref sig .tc := ⟨.hbm, 1673, rfl⟩
abbrev main_v1110 : Ref sig .tc := ⟨.hbm, 1674, rfl⟩
abbrev main_v1111 : Ref sig .tc := ⟨.hbm, 1675, rfl⟩
abbrev main_c_354 : Ref sig .tc := ⟨.hbm, 1676, rfl⟩
abbrev main_v1112 : Ref sig .tc := ⟨.hbm, 1677, rfl⟩
abbrev main_v1113 : Ref sig .tc := ⟨.hbm, 1678, rfl⟩
abbrev main_c_355 : Ref sig .tc := ⟨.hbm, 1679, rfl⟩
abbrev main_v1114 : Ref sig .tc := ⟨.hbm, 1680, rfl⟩
abbrev main_v1115 : Ref sig .tc := ⟨.hbm, 1681, rfl⟩
abbrev main_v1116 : Ref sig .tc := ⟨.hbm, 1682, rfl⟩
abbrev main_c_356 : Ref sig .tc := ⟨.hbm, 1683, rfl⟩
abbrev main_v1117 : Ref sig .tc := ⟨.hbm, 1684, rfl⟩
abbrev main_v1118 : Ref sig .tc := ⟨.hbm, 1685, rfl⟩
abbrev main_c_357 : Ref sig .tc := ⟨.hbm, 1686, rfl⟩
abbrev main_v1119 : Ref sig .tc := ⟨.hbm, 1687, rfl⟩
abbrev main_v1120 : Ref sig .tc := ⟨.hbm, 1688, rfl⟩
abbrev main_v1121 : Ref sig .tc := ⟨.hbm, 1689, rfl⟩
abbrev main_v1122 : Ref sig .tc := ⟨.hbm, 1690, rfl⟩
abbrev main_v1123 : Ref sig .tc := ⟨.hbm, 1691, rfl⟩
abbrev main_v1124 : Ref sig .tc := ⟨.hbm, 1692, rfl⟩
abbrev main_v1125 : Ref sig .tc := ⟨.hbm, 1693, rfl⟩
abbrev main_c_358 : Ref sig .tc := ⟨.hbm, 1694, rfl⟩
abbrev main_v1126 : Ref sig .tc := ⟨.hbm, 1695, rfl⟩
abbrev main_v1127 : Ref sig .tc := ⟨.hbm, 1696, rfl⟩
abbrev main_c_359 : Ref sig .tc := ⟨.hbm, 1697, rfl⟩
abbrev main_v1128 : Ref sig .tc := ⟨.hbm, 1698, rfl⟩
abbrev main_v1129 : Ref sig .tc := ⟨.hbm, 1699, rfl⟩
abbrev main_v1130 : Ref sig .tc := ⟨.hbm, 1700, rfl⟩
abbrev main_c_360 : Ref sig .tc := ⟨.hbm, 1701, rfl⟩
abbrev main_v1131 : Ref sig .tc := ⟨.hbm, 1702, rfl⟩
abbrev main_v1132 : Ref sig .tc := ⟨.hbm, 1703, rfl⟩
abbrev main_c_361 : Ref sig .tc := ⟨.hbm, 1704, rfl⟩
abbrev main_v1133 : Ref sig .tc := ⟨.hbm, 1705, rfl⟩
abbrev main_v1134 : Ref sig .tc := ⟨.hbm, 1706, rfl⟩
abbrev main_v1135 : Ref sig .tc := ⟨.hbm, 1707, rfl⟩
abbrev main_v1136 : Ref sig .tc := ⟨.hbm, 1708, rfl⟩
abbrev main_v1137 : Ref sig .tc := ⟨.hbm, 1709, rfl⟩
abbrev main_v1138 : Ref sig .tc := ⟨.hbm, 1710, rfl⟩
abbrev main_v1139 : Ref sig .tc := ⟨.hbm, 1711, rfl⟩
abbrev main_cst_362 : Ref sig .tc := ⟨.hbm, 1712, rfl⟩
abbrev main_v1140 : Ref sig .tc := ⟨.hbm, 1713, rfl⟩
abbrev main_v1141 : Ref sig .tc := ⟨.hbm, 1714, rfl⟩
abbrev main_v1142 : Ref sig .tc := ⟨.hbm, 1715, rfl⟩
abbrev main_v1143 : Ref sig .tc := ⟨.hbm, 1716, rfl⟩
abbrev main_v1144 : Ref sig .tc := ⟨.hbm, 1717, rfl⟩
abbrev main_cst_363 : Ref sig .tc := ⟨.hbm, 1718, rfl⟩
abbrev main_v1145 : Ref sig .tc := ⟨.hbm, 1719, rfl⟩
abbrev main_v1146 : Ref sig .tc := ⟨.hbm, 1720, rfl⟩
abbrev main_v1147 : Ref sig .tc := ⟨.hbm, 1721, rfl⟩
abbrev main_v1148 : Ref sig .tc := ⟨.hbm, 1722, rfl⟩
abbrev main_v1149 : Ref sig .tc := ⟨.hbm, 1723, rfl⟩
abbrev main_v1150 : Ref sig .tc := ⟨.hbm, 1724, rfl⟩
abbrev main_v1151 : Ref sig .tc := ⟨.hbm, 1725, rfl⟩
abbrev main_v1152 : Ref sig .tc := ⟨.hbm, 1726, rfl⟩
abbrev main_cst_364 : Ref sig .tc := ⟨.hbm, 1727, rfl⟩
abbrev main_v1153 : Ref sig .tc := ⟨.hbm, 1728, rfl⟩
abbrev main_v1154 : Ref sig .tc := ⟨.hbm, 1729, rfl⟩
abbrev main_v1155 : Ref sig .tc := ⟨.hbm, 1730, rfl⟩
abbrev main_v1156 : Ref sig .tc := ⟨.hbm, 1731, rfl⟩
abbrev main_v1157 : Ref sig .tc := ⟨.hbm, 1732, rfl⟩
abbrev main_v1158 : Ref sig .tc := ⟨.hbm, 1733, rfl⟩
abbrev main_cst_365 : Ref sig .tc := ⟨.hbm, 1734, rfl⟩
abbrev main_v1159 : Ref sig .tc := ⟨.hbm, 1735, rfl⟩
abbrev main_v1160 : Ref sig .tc := ⟨.hbm, 1736, rfl⟩
abbrev main_v1161 : Ref sig .tc := ⟨.hbm, 1737, rfl⟩
abbrev main_v1162 : Ref sig .tc := ⟨.hbm, 1738, rfl⟩
abbrev main_v1163 : Ref sig .tc := ⟨.hbm, 1739, rfl⟩
abbrev main_v1164 : Ref sig .tc := ⟨.hbm, 1740, rfl⟩
abbrev main_v1165 : Ref sig .tc := ⟨.hbm, 1741, rfl⟩
abbrev main_v1166 : Ref sig .tc := ⟨.hbm, 1742, rfl⟩
abbrev main_v1167 : Ref sig .tc := ⟨.hbm, 1743, rfl⟩
abbrev main_v1168 : Ref sig .tc := ⟨.hbm, 1744, rfl⟩
abbrev main_v1169 : Ref sig .tc := ⟨.hbm, 1745, rfl⟩
abbrev main_v1170 : Ref sig .tc := ⟨.hbm, 1746, rfl⟩
abbrev main_v1171 : Ref sig .tc := ⟨.hbm, 1747, rfl⟩
abbrev main_v1172 : Ref sig .tc := ⟨.hbm, 1748, rfl⟩
abbrev main_v1173 : Ref sig .tc := ⟨.hbm, 1749, rfl⟩
abbrev main_v1174 : Ref sig .tc := ⟨.hbm, 1750, rfl⟩
abbrev main_v1175 : Ref sig .tc := ⟨.hbm, 1751, rfl⟩
abbrev main_v1176 : Ref sig .tc := ⟨.hbm, 1752, rfl⟩
abbrev main_c_366 : Ref sig .tc := ⟨.hbm, 1753, rfl⟩
abbrev main_v1177 : Ref sig .tc := ⟨.hbm, 1754, rfl⟩
abbrev main_v1178 : Ref sig .tc := ⟨.hbm, 1755, rfl⟩
abbrev main_c_367 : Ref sig .tc := ⟨.hbm, 1756, rfl⟩
abbrev main_v1179 : Ref sig .tc := ⟨.hbm, 1757, rfl⟩
abbrev main_v1180 : Ref sig .tc := ⟨.hbm, 1758, rfl⟩
abbrev main_v1181 : Ref sig .tc := ⟨.hbm, 1759, rfl⟩
abbrev main_v1182 : Ref sig .tc := ⟨.hbm, 1760, rfl⟩
abbrev main_v1183 : Ref sig .tc := ⟨.hbm, 1761, rfl⟩
abbrev main_v1184 : Ref sig .tc := ⟨.hbm, 1762, rfl⟩
abbrev main_v1185 : Ref sig .tc := ⟨.hbm, 1763, rfl⟩
abbrev main_cst_368 : Ref sig .tc := ⟨.hbm, 1764, rfl⟩
abbrev main_v1186 : Ref sig .tc := ⟨.hbm, 1765, rfl⟩
abbrev main_v1187 : Ref sig .tc := ⟨.hbm, 1766, rfl⟩
abbrev main_cst_369 : Ref sig .tc := ⟨.hbm, 1767, rfl⟩
abbrev main_v1188 : Ref sig .tc := ⟨.hbm, 1768, rfl⟩
abbrev main_v1189 : Ref sig .tc := ⟨.hbm, 1769, rfl⟩
abbrev main_cst_370 : Ref sig .tc := ⟨.hbm, 1770, rfl⟩
abbrev main_v1190 : Ref sig .tc := ⟨.hbm, 1771, rfl⟩
abbrev main_v1191 : Ref sig .tc := ⟨.hbm, 1772, rfl⟩
abbrev main_v1192 : Ref sig .tc := ⟨.hbm, 1773, rfl⟩
abbrev main_v1193 : Ref sig .tc := ⟨.hbm, 1774, rfl⟩
abbrev main_cst_371 : Ref sig .tc := ⟨.hbm, 1775, rfl⟩
abbrev main_v1194 : Ref sig .tc := ⟨.hbm, 1776, rfl⟩
abbrev main_v1195 : Ref sig .tc := ⟨.hbm, 1777, rfl⟩
abbrev main_cst_372 : Ref sig .tc := ⟨.hbm, 1778, rfl⟩
abbrev main_v1196 : Ref sig .tc := ⟨.hbm, 1779, rfl⟩
abbrev main_v1197 : Ref sig .tc := ⟨.hbm, 1780, rfl⟩
abbrev main_cst_373 : Ref sig .tc := ⟨.hbm, 1781, rfl⟩
abbrev main_v1198 : Ref sig .tc := ⟨.hbm, 1782, rfl⟩
abbrev main_v1199 : Ref sig .tc := ⟨.hbm, 1783, rfl⟩
abbrev main_v1200 : Ref sig .tc := ⟨.hbm, 1784, rfl⟩
abbrev main_v1201 : Ref sig .tc := ⟨.hbm, 1785, rfl⟩
abbrev main_v1202 : Ref sig .tc := ⟨.hbm, 1786, rfl⟩
abbrev main_v1203 : Ref sig .tc := ⟨.hbm, 1787, rfl⟩
abbrev main_v1204 : Ref sig .tc := ⟨.hbm, 1788, rfl⟩
abbrev main_c_374 : Ref sig .tc := ⟨.hbm, 1789, rfl⟩
abbrev main_c_375 : Ref sig .tc := ⟨.hbm, 1790, rfl⟩
abbrev main_call36_v0 : Ref sig .tc := ⟨.hbm, 1791, rfl⟩
abbrev main_call36_v1 : Ref sig .tc := ⟨.hbm, 1792, rfl⟩
abbrev main_call36_v2 : Ref sig .tc := ⟨.hbm, 1793, rfl⟩
abbrev main_call36_v3 : Ref sig .tc := ⟨.hbm, 1794, rfl⟩
abbrev main_call36_v4 : Ref sig .tc := ⟨.hbm, 1795, rfl⟩
abbrev main_v1205 : Ref sig .tc := ⟨.hbm, 1796, rfl⟩
abbrev main_c_376 : Ref sig .tc := ⟨.hbm, 1797, rfl⟩
abbrev main_v1206 : Ref sig .tc := ⟨.hbm, 1798, rfl⟩
abbrev main_v1207 : Ref sig .tc := ⟨.hbm, 1799, rfl⟩
abbrev main_c_377 : Ref sig .tc := ⟨.hbm, 1800, rfl⟩
abbrev main_c_378 : Ref sig .tc := ⟨.hbm, 1801, rfl⟩
abbrev main_call37_v0 : Ref sig .tc := ⟨.hbm, 1802, rfl⟩
abbrev main_call37_v1 : Ref sig .tc := ⟨.hbm, 1803, rfl⟩
abbrev main_call37_v2 : Ref sig .tc := ⟨.hbm, 1804, rfl⟩
abbrev main_call37_v3 : Ref sig .tc := ⟨.hbm, 1805, rfl⟩
abbrev main_call37_v4 : Ref sig .tc := ⟨.hbm, 1806, rfl⟩
abbrev main_v1208 : Ref sig .tc := ⟨.hbm, 1807, rfl⟩
abbrev main_v1209 : Ref sig .tc := ⟨.hbm, 1808, rfl⟩
abbrev main_c_379 : Ref sig .tc := ⟨.hbm, 1809, rfl⟩
abbrev main_c_380 : Ref sig .tc := ⟨.hbm, 1810, rfl⟩
abbrev main_call38_v0 : Ref sig .tc := ⟨.hbm, 1811, rfl⟩
abbrev main_call38_v1 : Ref sig .tc := ⟨.hbm, 1812, rfl⟩
abbrev main_call38_v2 : Ref sig .tc := ⟨.hbm, 1813, rfl⟩
abbrev main_call38_v3 : Ref sig .tc := ⟨.hbm, 1814, rfl⟩
abbrev main_call38_v4 : Ref sig .tc := ⟨.hbm, 1815, rfl⟩
abbrev main_v1210 : Ref sig .tc := ⟨.hbm, 1816, rfl⟩
abbrev main_c_381 : Ref sig .tc := ⟨.hbm, 1817, rfl⟩
abbrev main_v1211 : Ref sig .tc := ⟨.hbm, 1818, rfl⟩
abbrev main_v1212 : Ref sig .tc := ⟨.hbm, 1819, rfl⟩
abbrev main_c_382 : Ref sig .tc := ⟨.hbm, 1820, rfl⟩
abbrev main_c_383 : Ref sig .tc := ⟨.hbm, 1821, rfl⟩
abbrev main_call39_v0 : Ref sig .tc := ⟨.hbm, 1822, rfl⟩
abbrev main_call39_v1 : Ref sig .tc := ⟨.hbm, 1823, rfl⟩
abbrev main_call39_v2 : Ref sig .tc := ⟨.hbm, 1824, rfl⟩
abbrev main_call39_v3 : Ref sig .tc := ⟨.hbm, 1825, rfl⟩
abbrev main_call39_v4 : Ref sig .tc := ⟨.hbm, 1826, rfl⟩
abbrev main_v1213 : Ref sig .tc := ⟨.hbm, 1827, rfl⟩
abbrev main_c_384 : Ref sig .tc := ⟨.hbm, 1828, rfl⟩
abbrev main_v1214 : Ref sig .tc := ⟨.hbm, 1829, rfl⟩
abbrev main_v1215 : Ref sig .tc := ⟨.hbm, 1830, rfl⟩
abbrev main_c_385 : Ref sig .tc := ⟨.hbm, 1831, rfl⟩
abbrev main_v1216 : Ref sig .tc := ⟨.hbm, 1832, rfl⟩
abbrev main_v1217 : Ref sig .tc := ⟨.hbm, 1833, rfl⟩
abbrev main_v1218 : Ref sig .tc := ⟨.hbm, 1834, rfl⟩
abbrev main_c_386 : Ref sig .tc := ⟨.hbm, 1835, rfl⟩
abbrev main_v1219 : Ref sig .tc := ⟨.hbm, 1836, rfl⟩
abbrev main_v1220 : Ref sig .tc := ⟨.hbm, 1837, rfl⟩
abbrev main_c_387 : Ref sig .tc := ⟨.hbm, 1838, rfl⟩
abbrev main_v1221 : Ref sig .tc := ⟨.hbm, 1839, rfl⟩
abbrev main_v1222 : Ref sig .tc := ⟨.hbm, 1840, rfl⟩
abbrev main_v1223 : Ref sig .tc := ⟨.hbm, 1841, rfl⟩
abbrev main_v1224 : Ref sig .tc := ⟨.hbm, 1842, rfl⟩
abbrev main_v1225 : Ref sig .tc := ⟨.hbm, 1843, rfl⟩
abbrev main_v1226 : Ref sig .tc := ⟨.hbm, 1844, rfl⟩
abbrev main_v1227 : Ref sig .tc := ⟨.hbm, 1845, rfl⟩
abbrev main_c_388 : Ref sig .tc := ⟨.hbm, 1846, rfl⟩
abbrev main_v1228 : Ref sig .tc := ⟨.hbm, 1847, rfl⟩
abbrev main_v1229 : Ref sig .tc := ⟨.hbm, 1848, rfl⟩
abbrev main_c_389 : Ref sig .tc := ⟨.hbm, 1849, rfl⟩
abbrev main_v1230 : Ref sig .tc := ⟨.hbm, 1850, rfl⟩
abbrev main_v1231 : Ref sig .tc := ⟨.hbm, 1851, rfl⟩
abbrev main_v1232 : Ref sig .tc := ⟨.hbm, 1852, rfl⟩
abbrev main_c_390 : Ref sig .tc := ⟨.hbm, 1853, rfl⟩
abbrev main_v1233 : Ref sig .tc := ⟨.hbm, 1854, rfl⟩
abbrev main_v1234 : Ref sig .tc := ⟨.hbm, 1855, rfl⟩
abbrev main_c_391 : Ref sig .tc := ⟨.hbm, 1856, rfl⟩
abbrev main_v1235 : Ref sig .tc := ⟨.hbm, 1857, rfl⟩
abbrev main_v1236 : Ref sig .tc := ⟨.hbm, 1858, rfl⟩
abbrev main_v1237 : Ref sig .tc := ⟨.hbm, 1859, rfl⟩
abbrev main_v1238 : Ref sig .tc := ⟨.hbm, 1860, rfl⟩
abbrev main_v1239 : Ref sig .tc := ⟨.hbm, 1861, rfl⟩
abbrev main_v1240 : Ref sig .tc := ⟨.hbm, 1862, rfl⟩
abbrev main_v1241 : Ref sig .tc := ⟨.hbm, 1863, rfl⟩
abbrev main_c_392 : Ref sig .tc := ⟨.hbm, 1864, rfl⟩
abbrev main_v1242 : Ref sig .tc := ⟨.hbm, 1865, rfl⟩
abbrev main_v1243 : Ref sig .tc := ⟨.hbm, 1866, rfl⟩
abbrev main_c_393 : Ref sig .tc := ⟨.hbm, 1867, rfl⟩
abbrev main_v1244 : Ref sig .tc := ⟨.hbm, 1868, rfl⟩
abbrev main_v1245 : Ref sig .tc := ⟨.hbm, 1869, rfl⟩
abbrev main_v1246 : Ref sig .tc := ⟨.hbm, 1870, rfl⟩
abbrev main_c_394 : Ref sig .tc := ⟨.hbm, 1871, rfl⟩
abbrev main_v1247 : Ref sig .tc := ⟨.hbm, 1872, rfl⟩
abbrev main_v1248 : Ref sig .tc := ⟨.hbm, 1873, rfl⟩
abbrev main_c_395 : Ref sig .tc := ⟨.hbm, 1874, rfl⟩
abbrev main_v1249 : Ref sig .tc := ⟨.hbm, 1875, rfl⟩
abbrev main_v1250 : Ref sig .tc := ⟨.hbm, 1876, rfl⟩
abbrev main_v1251 : Ref sig .tc := ⟨.hbm, 1877, rfl⟩
abbrev main_v1252 : Ref sig .tc := ⟨.hbm, 1878, rfl⟩
abbrev main_v1253 : Ref sig .tc := ⟨.hbm, 1879, rfl⟩
abbrev main_v1254 : Ref sig .tc := ⟨.hbm, 1880, rfl⟩
abbrev main_v1255 : Ref sig .tc := ⟨.hbm, 1881, rfl⟩
abbrev main_c_396 : Ref sig .tc := ⟨.hbm, 1882, rfl⟩
abbrev main_v1256 : Ref sig .tc := ⟨.hbm, 1883, rfl⟩
abbrev main_v1257 : Ref sig .tc := ⟨.hbm, 1884, rfl⟩
abbrev main_c_397 : Ref sig .tc := ⟨.hbm, 1885, rfl⟩
abbrev main_v1258 : Ref sig .tc := ⟨.hbm, 1886, rfl⟩
abbrev main_v1259 : Ref sig .tc := ⟨.hbm, 1887, rfl⟩
abbrev main_v1260 : Ref sig .tc := ⟨.hbm, 1888, rfl⟩
abbrev main_c_398 : Ref sig .tc := ⟨.hbm, 1889, rfl⟩
abbrev main_v1261 : Ref sig .tc := ⟨.hbm, 1890, rfl⟩
abbrev main_v1262 : Ref sig .tc := ⟨.hbm, 1891, rfl⟩
abbrev main_c_399 : Ref sig .tc := ⟨.hbm, 1892, rfl⟩
abbrev main_v1263 : Ref sig .tc := ⟨.hbm, 1893, rfl⟩
abbrev main_v1264 : Ref sig .tc := ⟨.hbm, 1894, rfl⟩
abbrev main_v1265 : Ref sig .tc := ⟨.hbm, 1895, rfl⟩
abbrev main_v1266 : Ref sig .tc := ⟨.hbm, 1896, rfl⟩
abbrev main_v1267 : Ref sig .tc := ⟨.hbm, 1897, rfl⟩
abbrev main_v1268 : Ref sig .tc := ⟨.hbm, 1898, rfl⟩
abbrev main_v1269 : Ref sig .tc := ⟨.hbm, 1899, rfl⟩
abbrev main_cst_400 : Ref sig .tc := ⟨.hbm, 1900, rfl⟩
abbrev main_v1270 : Ref sig .tc := ⟨.hbm, 1901, rfl⟩
abbrev main_v1271 : Ref sig .tc := ⟨.hbm, 1902, rfl⟩
abbrev main_v1272 : Ref sig .tc := ⟨.hbm, 1903, rfl⟩
abbrev main_v1273 : Ref sig .tc := ⟨.hbm, 1904, rfl⟩
abbrev main_v1274 : Ref sig .tc := ⟨.hbm, 1905, rfl⟩
abbrev main_cst_401 : Ref sig .tc := ⟨.hbm, 1906, rfl⟩
abbrev main_v1275 : Ref sig .tc := ⟨.hbm, 1907, rfl⟩
abbrev main_v1276 : Ref sig .tc := ⟨.hbm, 1908, rfl⟩
abbrev main_v1277 : Ref sig .tc := ⟨.hbm, 1909, rfl⟩
abbrev main_v1278 : Ref sig .tc := ⟨.hbm, 1910, rfl⟩
abbrev main_v1279 : Ref sig .tc := ⟨.hbm, 1911, rfl⟩
abbrev main_v1280 : Ref sig .tc := ⟨.hbm, 1912, rfl⟩
abbrev main_v1281 : Ref sig .tc := ⟨.hbm, 1913, rfl⟩
abbrev main_v1282 : Ref sig .tc := ⟨.hbm, 1914, rfl⟩
abbrev main_cst_402 : Ref sig .tc := ⟨.hbm, 1915, rfl⟩
abbrev main_v1283 : Ref sig .tc := ⟨.hbm, 1916, rfl⟩
abbrev main_v1284 : Ref sig .tc := ⟨.hbm, 1917, rfl⟩
abbrev main_v1285 : Ref sig .tc := ⟨.hbm, 1918, rfl⟩
abbrev main_v1286 : Ref sig .tc := ⟨.hbm, 1919, rfl⟩
abbrev main_v1287 : Ref sig .tc := ⟨.hbm, 1920, rfl⟩
abbrev main_v1288 : Ref sig .tc := ⟨.hbm, 1921, rfl⟩
abbrev main_cst_403 : Ref sig .tc := ⟨.hbm, 1922, rfl⟩
abbrev main_v1289 : Ref sig .tc := ⟨.hbm, 1923, rfl⟩
abbrev main_v1290 : Ref sig .tc := ⟨.hbm, 1924, rfl⟩
abbrev main_v1291 : Ref sig .tc := ⟨.hbm, 1925, rfl⟩
abbrev main_v1292 : Ref sig .tc := ⟨.hbm, 1926, rfl⟩
abbrev main_v1293 : Ref sig .tc := ⟨.hbm, 1927, rfl⟩
abbrev main_v1294 : Ref sig .tc := ⟨.hbm, 1928, rfl⟩
abbrev main_v1295 : Ref sig .tc := ⟨.hbm, 1929, rfl⟩
abbrev main_v1296 : Ref sig .tc := ⟨.hbm, 1930, rfl⟩
abbrev main_v1297 : Ref sig .tc := ⟨.hbm, 1931, rfl⟩
abbrev main_v1298 : Ref sig .tc := ⟨.hbm, 1932, rfl⟩
abbrev main_v1299 : Ref sig .tc := ⟨.hbm, 1933, rfl⟩
abbrev main_v1300 : Ref sig .tc := ⟨.hbm, 1934, rfl⟩
abbrev main_v1301 : Ref sig .tc := ⟨.hbm, 1935, rfl⟩
abbrev main_v1302 : Ref sig .tc := ⟨.hbm, 1936, rfl⟩
abbrev main_v1303 : Ref sig .tc := ⟨.hbm, 1937, rfl⟩
abbrev main_v1304 : Ref sig .tc := ⟨.hbm, 1938, rfl⟩
abbrev main_v1305 : Ref sig .tc := ⟨.hbm, 1939, rfl⟩
abbrev main_v1306 : Ref sig .tc := ⟨.hbm, 1940, rfl⟩
abbrev main_c_404 : Ref sig .tc := ⟨.hbm, 1941, rfl⟩
abbrev main_v1307 : Ref sig .tc := ⟨.hbm, 1942, rfl⟩
abbrev main_v1308 : Ref sig .tc := ⟨.hbm, 1943, rfl⟩
abbrev main_c_405 : Ref sig .tc := ⟨.hbm, 1944, rfl⟩
abbrev main_v1309 : Ref sig .tc := ⟨.hbm, 1945, rfl⟩
abbrev main_v1310 : Ref sig .tc := ⟨.hbm, 1946, rfl⟩
abbrev main_v1311 : Ref sig .tc := ⟨.hbm, 1947, rfl⟩
abbrev main_v1312 : Ref sig .tc := ⟨.hbm, 1948, rfl⟩
abbrev main_v1313 : Ref sig .tc := ⟨.hbm, 1949, rfl⟩
abbrev main_v1314 : Ref sig .tc := ⟨.hbm, 1950, rfl⟩
abbrev main_v1315 : Ref sig .tc := ⟨.hbm, 1951, rfl⟩
abbrev main_cst_406 : Ref sig .tc := ⟨.hbm, 1952, rfl⟩
abbrev main_v1316 : Ref sig .tc := ⟨.hbm, 1953, rfl⟩
abbrev main_v1317 : Ref sig .tc := ⟨.hbm, 1954, rfl⟩
abbrev main_cst_407 : Ref sig .tc := ⟨.hbm, 1955, rfl⟩
abbrev main_v1318 : Ref sig .tc := ⟨.hbm, 1956, rfl⟩
abbrev main_v1319 : Ref sig .tc := ⟨.hbm, 1957, rfl⟩
abbrev main_cst_408 : Ref sig .tc := ⟨.hbm, 1958, rfl⟩
abbrev main_v1320 : Ref sig .tc := ⟨.hbm, 1959, rfl⟩
abbrev main_v1321 : Ref sig .tc := ⟨.hbm, 1960, rfl⟩
abbrev main_v1322 : Ref sig .tc := ⟨.hbm, 1961, rfl⟩
abbrev main_v1323 : Ref sig .tc := ⟨.hbm, 1962, rfl⟩
abbrev main_cst_409 : Ref sig .tc := ⟨.hbm, 1963, rfl⟩
abbrev main_v1324 : Ref sig .tc := ⟨.hbm, 1964, rfl⟩
abbrev main_v1325 : Ref sig .tc := ⟨.hbm, 1965, rfl⟩
abbrev main_cst_410 : Ref sig .tc := ⟨.hbm, 1966, rfl⟩
abbrev main_v1326 : Ref sig .tc := ⟨.hbm, 1967, rfl⟩
abbrev main_v1327 : Ref sig .tc := ⟨.hbm, 1968, rfl⟩
abbrev main_cst_411 : Ref sig .tc := ⟨.hbm, 1969, rfl⟩
abbrev main_v1328 : Ref sig .tc := ⟨.hbm, 1970, rfl⟩
abbrev main_v1329 : Ref sig .tc := ⟨.hbm, 1971, rfl⟩
abbrev main_v1330 : Ref sig .tc := ⟨.hbm, 1972, rfl⟩
abbrev main_v1331 : Ref sig .tc := ⟨.hbm, 1973, rfl⟩
abbrev main_v1332 : Ref sig .tc := ⟨.hbm, 1974, rfl⟩
abbrev main_v1333 : Ref sig .tc := ⟨.hbm, 1975, rfl⟩
abbrev main_v1334 : Ref sig .tc := ⟨.hbm, 1976, rfl⟩
abbrev main_c_412 : Ref sig .tc := ⟨.hbm, 1977, rfl⟩
abbrev main_c_413 : Ref sig .tc := ⟨.hbm, 1978, rfl⟩
abbrev main_call40_v0 : Ref sig .tc := ⟨.hbm, 1979, rfl⟩
abbrev main_call40_v1 : Ref sig .tc := ⟨.hbm, 1980, rfl⟩
abbrev main_call40_v2 : Ref sig .tc := ⟨.hbm, 1981, rfl⟩
abbrev main_call40_v3 : Ref sig .tc := ⟨.hbm, 1982, rfl⟩
abbrev main_call40_v4 : Ref sig .tc := ⟨.hbm, 1983, rfl⟩
abbrev main_v1335 : Ref sig .tc := ⟨.hbm, 1984, rfl⟩
abbrev main_c_414 : Ref sig .tc := ⟨.hbm, 1985, rfl⟩
abbrev main_v1336 : Ref sig .tc := ⟨.hbm, 1986, rfl⟩
abbrev main_v1337 : Ref sig .tc := ⟨.hbm, 1987, rfl⟩
abbrev main_c_415 : Ref sig .tc := ⟨.hbm, 1988, rfl⟩
abbrev main_c_416 : Ref sig .tc := ⟨.hbm, 1989, rfl⟩
abbrev main_call41_v0 : Ref sig .tc := ⟨.hbm, 1990, rfl⟩
abbrev main_call41_v1 : Ref sig .tc := ⟨.hbm, 1991, rfl⟩
abbrev main_call41_v2 : Ref sig .tc := ⟨.hbm, 1992, rfl⟩
abbrev main_call41_v3 : Ref sig .tc := ⟨.hbm, 1993, rfl⟩
abbrev main_call41_v4 : Ref sig .tc := ⟨.hbm, 1994, rfl⟩
abbrev main_v1338 : Ref sig .tc := ⟨.hbm, 1995, rfl⟩
abbrev main_v1339 : Ref sig .tc := ⟨.hbm, 1996, rfl⟩
abbrev main_c_417 : Ref sig .tc := ⟨.hbm, 1997, rfl⟩
abbrev main_c_418 : Ref sig .tc := ⟨.hbm, 1998, rfl⟩
abbrev main_call42_v0 : Ref sig .tc := ⟨.hbm, 1999, rfl⟩
abbrev main_call42_v1 : Ref sig .tc := ⟨.hbm, 2000, rfl⟩
abbrev main_call42_v2 : Ref sig .tc := ⟨.hbm, 2001, rfl⟩
abbrev main_call42_v3 : Ref sig .tc := ⟨.hbm, 2002, rfl⟩
abbrev main_call42_v4 : Ref sig .tc := ⟨.hbm, 2003, rfl⟩
abbrev main_v1340 : Ref sig .tc := ⟨.hbm, 2004, rfl⟩
abbrev main_c_419 : Ref sig .tc := ⟨.hbm, 2005, rfl⟩
abbrev main_v1341 : Ref sig .tc := ⟨.hbm, 2006, rfl⟩
abbrev main_v1342 : Ref sig .tc := ⟨.hbm, 2007, rfl⟩
abbrev main_c_420 : Ref sig .tc := ⟨.hbm, 2008, rfl⟩
abbrev main_c_421 : Ref sig .tc := ⟨.hbm, 2009, rfl⟩
abbrev main_call43_v0 : Ref sig .tc := ⟨.hbm, 2010, rfl⟩
abbrev main_call43_v1 : Ref sig .tc := ⟨.hbm, 2011, rfl⟩
abbrev main_call43_v2 : Ref sig .tc := ⟨.hbm, 2012, rfl⟩
abbrev main_call43_v3 : Ref sig .tc := ⟨.hbm, 2013, rfl⟩
abbrev main_call43_v4 : Ref sig .tc := ⟨.hbm, 2014, rfl⟩
abbrev main_v1343 : Ref sig .tc := ⟨.hbm, 2015, rfl⟩
abbrev main_c_422 : Ref sig .tc := ⟨.hbm, 2016, rfl⟩
abbrev main_v1344 : Ref sig .tc := ⟨.hbm, 2017, rfl⟩
abbrev main_v1345 : Ref sig .tc := ⟨.hbm, 2018, rfl⟩
abbrev main_c_423 : Ref sig .tc := ⟨.hbm, 2019, rfl⟩
abbrev main_v1346 : Ref sig .tc := ⟨.hbm, 2020, rfl⟩
abbrev main_v1347 : Ref sig .tc := ⟨.hbm, 2021, rfl⟩
abbrev main_v1348 : Ref sig .tc := ⟨.hbm, 2022, rfl⟩
abbrev main_c_424 : Ref sig .tc := ⟨.hbm, 2023, rfl⟩
abbrev main_v1349 : Ref sig .tc := ⟨.hbm, 2024, rfl⟩
abbrev main_v1350 : Ref sig .tc := ⟨.hbm, 2025, rfl⟩
abbrev main_c_425 : Ref sig .tc := ⟨.hbm, 2026, rfl⟩
abbrev main_v1351 : Ref sig .tc := ⟨.hbm, 2027, rfl⟩
abbrev main_v1352 : Ref sig .tc := ⟨.hbm, 2028, rfl⟩
abbrev main_v1353 : Ref sig .tc := ⟨.hbm, 2029, rfl⟩
abbrev main_v1354 : Ref sig .tc := ⟨.hbm, 2030, rfl⟩
abbrev main_v1355 : Ref sig .tc := ⟨.hbm, 2031, rfl⟩
abbrev main_v1356 : Ref sig .tc := ⟨.hbm, 2032, rfl⟩
abbrev main_v1357 : Ref sig .tc := ⟨.hbm, 2033, rfl⟩
abbrev main_c_426 : Ref sig .tc := ⟨.hbm, 2034, rfl⟩
abbrev main_v1358 : Ref sig .tc := ⟨.hbm, 2035, rfl⟩
abbrev main_v1359 : Ref sig .tc := ⟨.hbm, 2036, rfl⟩
abbrev main_c_427 : Ref sig .tc := ⟨.hbm, 2037, rfl⟩
abbrev main_v1360 : Ref sig .tc := ⟨.hbm, 2038, rfl⟩
abbrev main_v1361 : Ref sig .tc := ⟨.hbm, 2039, rfl⟩
abbrev main_v1362 : Ref sig .tc := ⟨.hbm, 2040, rfl⟩
abbrev main_c_428 : Ref sig .tc := ⟨.hbm, 2041, rfl⟩
abbrev main_v1363 : Ref sig .tc := ⟨.hbm, 2042, rfl⟩
abbrev main_v1364 : Ref sig .tc := ⟨.hbm, 2043, rfl⟩
abbrev main_c_429 : Ref sig .tc := ⟨.hbm, 2044, rfl⟩
abbrev main_v1365 : Ref sig .tc := ⟨.hbm, 2045, rfl⟩
abbrev main_v1366 : Ref sig .tc := ⟨.hbm, 2046, rfl⟩
abbrev main_v1367 : Ref sig .tc := ⟨.hbm, 2047, rfl⟩
abbrev main_v1368 : Ref sig .tc := ⟨.hbm, 2048, rfl⟩
abbrev main_v1369 : Ref sig .tc := ⟨.hbm, 2049, rfl⟩
abbrev main_v1370 : Ref sig .tc := ⟨.hbm, 2050, rfl⟩
abbrev main_v1371 : Ref sig .tc := ⟨.hbm, 2051, rfl⟩
abbrev main_c_430 : Ref sig .tc := ⟨.hbm, 2052, rfl⟩
abbrev main_v1372 : Ref sig .tc := ⟨.hbm, 2053, rfl⟩
abbrev main_v1373 : Ref sig .tc := ⟨.hbm, 2054, rfl⟩
abbrev main_c_431 : Ref sig .tc := ⟨.hbm, 2055, rfl⟩
abbrev main_v1374 : Ref sig .tc := ⟨.hbm, 2056, rfl⟩
abbrev main_v1375 : Ref sig .tc := ⟨.hbm, 2057, rfl⟩
abbrev main_v1376 : Ref sig .tc := ⟨.hbm, 2058, rfl⟩
abbrev main_c_432 : Ref sig .tc := ⟨.hbm, 2059, rfl⟩
abbrev main_v1377 : Ref sig .tc := ⟨.hbm, 2060, rfl⟩
abbrev main_v1378 : Ref sig .tc := ⟨.hbm, 2061, rfl⟩
abbrev main_c_433 : Ref sig .tc := ⟨.hbm, 2062, rfl⟩
abbrev main_v1379 : Ref sig .tc := ⟨.hbm, 2063, rfl⟩
abbrev main_v1380 : Ref sig .tc := ⟨.hbm, 2064, rfl⟩
abbrev main_v1381 : Ref sig .tc := ⟨.hbm, 2065, rfl⟩
abbrev main_v1382 : Ref sig .tc := ⟨.hbm, 2066, rfl⟩
abbrev main_v1383 : Ref sig .tc := ⟨.hbm, 2067, rfl⟩
abbrev main_v1384 : Ref sig .tc := ⟨.hbm, 2068, rfl⟩
abbrev main_v1385 : Ref sig .tc := ⟨.hbm, 2069, rfl⟩
abbrev main_c_434 : Ref sig .tc := ⟨.hbm, 2070, rfl⟩
abbrev main_v1386 : Ref sig .tc := ⟨.hbm, 2071, rfl⟩
abbrev main_v1387 : Ref sig .tc := ⟨.hbm, 2072, rfl⟩
abbrev main_c_435 : Ref sig .tc := ⟨.hbm, 2073, rfl⟩
abbrev main_v1388 : Ref sig .tc := ⟨.hbm, 2074, rfl⟩
abbrev main_v1389 : Ref sig .tc := ⟨.hbm, 2075, rfl⟩
abbrev main_v1390 : Ref sig .tc := ⟨.hbm, 2076, rfl⟩
abbrev main_c_436 : Ref sig .tc := ⟨.hbm, 2077, rfl⟩
abbrev main_v1391 : Ref sig .tc := ⟨.hbm, 2078, rfl⟩
abbrev main_v1392 : Ref sig .tc := ⟨.hbm, 2079, rfl⟩
abbrev main_c_437 : Ref sig .tc := ⟨.hbm, 2080, rfl⟩
abbrev main_v1393 : Ref sig .tc := ⟨.hbm, 2081, rfl⟩
abbrev main_v1394 : Ref sig .tc := ⟨.hbm, 2082, rfl⟩
abbrev main_v1395 : Ref sig .tc := ⟨.hbm, 2083, rfl⟩
abbrev main_v1396 : Ref sig .tc := ⟨.hbm, 2084, rfl⟩
abbrev main_v1397 : Ref sig .tc := ⟨.hbm, 2085, rfl⟩
abbrev main_v1398 : Ref sig .tc := ⟨.hbm, 2086, rfl⟩
abbrev main_v1399 : Ref sig .tc := ⟨.hbm, 2087, rfl⟩
abbrev main_cst_438 : Ref sig .tc := ⟨.hbm, 2088, rfl⟩
abbrev main_v1400 : Ref sig .tc := ⟨.hbm, 2089, rfl⟩
abbrev main_v1401 : Ref sig .tc := ⟨.hbm, 2090, rfl⟩
abbrev main_v1402 : Ref sig .tc := ⟨.hbm, 2091, rfl⟩
abbrev main_v1403 : Ref sig .tc := ⟨.hbm, 2092, rfl⟩
abbrev main_v1404 : Ref sig .tc := ⟨.hbm, 2093, rfl⟩
abbrev main_cst_439 : Ref sig .tc := ⟨.hbm, 2094, rfl⟩
abbrev main_v1405 : Ref sig .tc := ⟨.hbm, 2095, rfl⟩
abbrev main_v1406 : Ref sig .tc := ⟨.hbm, 2096, rfl⟩
abbrev main_v1407 : Ref sig .tc := ⟨.hbm, 2097, rfl⟩
abbrev main_v1408 : Ref sig .tc := ⟨.hbm, 2098, rfl⟩
abbrev main_v1409 : Ref sig .tc := ⟨.hbm, 2099, rfl⟩
abbrev main_v1410 : Ref sig .tc := ⟨.hbm, 2100, rfl⟩
abbrev main_v1411 : Ref sig .tc := ⟨.hbm, 2101, rfl⟩
abbrev main_v1412 : Ref sig .tc := ⟨.hbm, 2102, rfl⟩
abbrev main_cst_440 : Ref sig .tc := ⟨.hbm, 2103, rfl⟩
abbrev main_v1413 : Ref sig .tc := ⟨.hbm, 2104, rfl⟩
abbrev main_v1414 : Ref sig .tc := ⟨.hbm, 2105, rfl⟩
abbrev main_v1415 : Ref sig .tc := ⟨.hbm, 2106, rfl⟩
abbrev main_v1416 : Ref sig .tc := ⟨.hbm, 2107, rfl⟩
abbrev main_v1417 : Ref sig .tc := ⟨.hbm, 2108, rfl⟩
abbrev main_v1418 : Ref sig .tc := ⟨.hbm, 2109, rfl⟩
abbrev main_cst_441 : Ref sig .tc := ⟨.hbm, 2110, rfl⟩
abbrev main_v1419 : Ref sig .tc := ⟨.hbm, 2111, rfl⟩
abbrev main_v1420 : Ref sig .tc := ⟨.hbm, 2112, rfl⟩
abbrev main_v1421 : Ref sig .tc := ⟨.hbm, 2113, rfl⟩
abbrev main_v1422 : Ref sig .tc := ⟨.hbm, 2114, rfl⟩
abbrev main_v1423 : Ref sig .tc := ⟨.hbm, 2115, rfl⟩
abbrev main_v1424 : Ref sig .tc := ⟨.hbm, 2116, rfl⟩
abbrev main_v1425 : Ref sig .tc := ⟨.hbm, 2117, rfl⟩
abbrev main_v1426 : Ref sig .tc := ⟨.hbm, 2118, rfl⟩
abbrev main_v1427 : Ref sig .tc := ⟨.hbm, 2119, rfl⟩
abbrev main_v1428 : Ref sig .tc := ⟨.hbm, 2120, rfl⟩
abbrev main_v1429 : Ref sig .tc := ⟨.hbm, 2121, rfl⟩
abbrev main_v1430 : Ref sig .tc := ⟨.hbm, 2122, rfl⟩
abbrev main_v1431 : Ref sig .tc := ⟨.hbm, 2123, rfl⟩
abbrev main_v1432 : Ref sig .tc := ⟨.hbm, 2124, rfl⟩
abbrev main_v1433 : Ref sig .tc := ⟨.hbm, 2125, rfl⟩
abbrev main_v1434 : Ref sig .tc := ⟨.hbm, 2126, rfl⟩
abbrev main_v1435 : Ref sig .tc := ⟨.hbm, 2127, rfl⟩
abbrev main_v1436 : Ref sig .tc := ⟨.hbm, 2128, rfl⟩
abbrev main_c_442 : Ref sig .tc := ⟨.hbm, 2129, rfl⟩
abbrev main_v1437 : Ref sig .tc := ⟨.hbm, 2130, rfl⟩
abbrev main_v1438 : Ref sig .tc := ⟨.hbm, 2131, rfl⟩
abbrev main_c_443 : Ref sig .tc := ⟨.hbm, 2132, rfl⟩
abbrev main_v1439 : Ref sig .tc := ⟨.hbm, 2133, rfl⟩
abbrev main_v1440 : Ref sig .tc := ⟨.hbm, 2134, rfl⟩
abbrev main_v1441 : Ref sig .tc := ⟨.hbm, 2135, rfl⟩
abbrev main_v1442 : Ref sig .tc := ⟨.hbm, 2136, rfl⟩
abbrev main_v1443 : Ref sig .tc := ⟨.hbm, 2137, rfl⟩
abbrev main_v1444 : Ref sig .tc := ⟨.hbm, 2138, rfl⟩
abbrev main_v1445 : Ref sig .tc := ⟨.hbm, 2139, rfl⟩
abbrev main_cst_444 : Ref sig .tc := ⟨.hbm, 2140, rfl⟩
abbrev main_v1446 : Ref sig .tc := ⟨.hbm, 2141, rfl⟩
abbrev main_v1447 : Ref sig .tc := ⟨.hbm, 2142, rfl⟩
abbrev main_cst_445 : Ref sig .tc := ⟨.hbm, 2143, rfl⟩
abbrev main_v1448 : Ref sig .tc := ⟨.hbm, 2144, rfl⟩
abbrev main_v1449 : Ref sig .tc := ⟨.hbm, 2145, rfl⟩
abbrev main_cst_446 : Ref sig .tc := ⟨.hbm, 2146, rfl⟩
abbrev main_v1450 : Ref sig .tc := ⟨.hbm, 2147, rfl⟩
abbrev main_v1451 : Ref sig .tc := ⟨.hbm, 2148, rfl⟩
abbrev main_v1452 : Ref sig .tc := ⟨.hbm, 2149, rfl⟩
abbrev main_v1453 : Ref sig .tc := ⟨.hbm, 2150, rfl⟩
abbrev main_cst_447 : Ref sig .tc := ⟨.hbm, 2151, rfl⟩
abbrev main_v1454 : Ref sig .tc := ⟨.hbm, 2152, rfl⟩
abbrev main_v1455 : Ref sig .tc := ⟨.hbm, 2153, rfl⟩
abbrev main_cst_448 : Ref sig .tc := ⟨.hbm, 2154, rfl⟩
abbrev main_v1456 : Ref sig .tc := ⟨.hbm, 2155, rfl⟩
abbrev main_v1457 : Ref sig .tc := ⟨.hbm, 2156, rfl⟩
abbrev main_cst_449 : Ref sig .tc := ⟨.hbm, 2157, rfl⟩
abbrev main_v1458 : Ref sig .tc := ⟨.hbm, 2158, rfl⟩
abbrev main_v1459 : Ref sig .tc := ⟨.hbm, 2159, rfl⟩
abbrev main_v1460 : Ref sig .tc := ⟨.hbm, 2160, rfl⟩
abbrev main_v1461 : Ref sig .tc := ⟨.hbm, 2161, rfl⟩
abbrev main_v1462 : Ref sig .tc := ⟨.hbm, 2162, rfl⟩
abbrev main_v1463 : Ref sig .tc := ⟨.hbm, 2163, rfl⟩
abbrev main_v1464 : Ref sig .tc := ⟨.hbm, 2164, rfl⟩
abbrev main_c_450 : Ref sig .tc := ⟨.hbm, 2165, rfl⟩
abbrev main_c_451 : Ref sig .tc := ⟨.hbm, 2166, rfl⟩
abbrev main_call44_v0 : Ref sig .tc := ⟨.hbm, 2167, rfl⟩
abbrev main_call44_v1 : Ref sig .tc := ⟨.hbm, 2168, rfl⟩
abbrev main_call44_v2 : Ref sig .tc := ⟨.hbm, 2169, rfl⟩
abbrev main_call44_v3 : Ref sig .tc := ⟨.hbm, 2170, rfl⟩
abbrev main_call44_v4 : Ref sig .tc := ⟨.hbm, 2171, rfl⟩
abbrev main_v1465 : Ref sig .tc := ⟨.hbm, 2172, rfl⟩
abbrev main_c_452 : Ref sig .tc := ⟨.hbm, 2173, rfl⟩
abbrev main_v1466 : Ref sig .tc := ⟨.hbm, 2174, rfl⟩
abbrev main_v1467 : Ref sig .tc := ⟨.hbm, 2175, rfl⟩
abbrev main_c_453 : Ref sig .tc := ⟨.hbm, 2176, rfl⟩
abbrev main_c_454 : Ref sig .tc := ⟨.hbm, 2177, rfl⟩
abbrev main_call45_v0 : Ref sig .tc := ⟨.hbm, 2178, rfl⟩
abbrev main_call45_v1 : Ref sig .tc := ⟨.hbm, 2179, rfl⟩
abbrev main_call45_v2 : Ref sig .tc := ⟨.hbm, 2180, rfl⟩
abbrev main_call45_v3 : Ref sig .tc := ⟨.hbm, 2181, rfl⟩
abbrev main_call45_v4 : Ref sig .tc := ⟨.hbm, 2182, rfl⟩
abbrev main_v1468 : Ref sig .tc := ⟨.hbm, 2183, rfl⟩
abbrev main_v1469 : Ref sig .tc := ⟨.hbm, 2184, rfl⟩
abbrev main_c_455 : Ref sig .tc := ⟨.hbm, 2185, rfl⟩
abbrev main_c_456 : Ref sig .tc := ⟨.hbm, 2186, rfl⟩
abbrev main_call46_v0 : Ref sig .tc := ⟨.hbm, 2187, rfl⟩
abbrev main_call46_v1 : Ref sig .tc := ⟨.hbm, 2188, rfl⟩
abbrev main_call46_v2 : Ref sig .tc := ⟨.hbm, 2189, rfl⟩
abbrev main_call46_v3 : Ref sig .tc := ⟨.hbm, 2190, rfl⟩
abbrev main_call46_v4 : Ref sig .tc := ⟨.hbm, 2191, rfl⟩
abbrev main_v1470 : Ref sig .tc := ⟨.hbm, 2192, rfl⟩
abbrev main_c_457 : Ref sig .tc := ⟨.hbm, 2193, rfl⟩
abbrev main_v1471 : Ref sig .tc := ⟨.hbm, 2194, rfl⟩
abbrev main_v1472 : Ref sig .tc := ⟨.hbm, 2195, rfl⟩
abbrev main_c_458 : Ref sig .tc := ⟨.hbm, 2196, rfl⟩
abbrev main_c_459 : Ref sig .tc := ⟨.hbm, 2197, rfl⟩
abbrev main_call47_v0 : Ref sig .tc := ⟨.hbm, 2198, rfl⟩
abbrev main_call47_v1 : Ref sig .tc := ⟨.hbm, 2199, rfl⟩
abbrev main_call47_v2 : Ref sig .tc := ⟨.hbm, 2200, rfl⟩
abbrev main_call47_v3 : Ref sig .tc := ⟨.hbm, 2201, rfl⟩
abbrev main_call47_v4 : Ref sig .tc := ⟨.hbm, 2202, rfl⟩
abbrev main_v1473 : Ref sig .tc := ⟨.hbm, 2203, rfl⟩
abbrev main_c_460 : Ref sig .tc := ⟨.hbm, 2204, rfl⟩
abbrev main_v1474 : Ref sig .tc := ⟨.hbm, 2205, rfl⟩
abbrev main_v1475 : Ref sig .tc := ⟨.hbm, 2206, rfl⟩
abbrev main_c_461 : Ref sig .tc := ⟨.hbm, 2207, rfl⟩
abbrev main_v1476 : Ref sig .tc := ⟨.hbm, 2208, rfl⟩
abbrev main_v1477 : Ref sig .tc := ⟨.hbm, 2209, rfl⟩
abbrev main_v1478 : Ref sig .tc := ⟨.hbm, 2210, rfl⟩
abbrev main_c_462 : Ref sig .tc := ⟨.hbm, 2211, rfl⟩
abbrev main_v1479 : Ref sig .tc := ⟨.hbm, 2212, rfl⟩
abbrev main_v1480 : Ref sig .tc := ⟨.hbm, 2213, rfl⟩
abbrev main_c_463 : Ref sig .tc := ⟨.hbm, 2214, rfl⟩
abbrev main_v1481 : Ref sig .tc := ⟨.hbm, 2215, rfl⟩
abbrev main_v1482 : Ref sig .tc := ⟨.hbm, 2216, rfl⟩
abbrev main_v1483 : Ref sig .tc := ⟨.hbm, 2217, rfl⟩
abbrev main_v1484 : Ref sig .tc := ⟨.hbm, 2218, rfl⟩
abbrev main_v1485 : Ref sig .tc := ⟨.hbm, 2219, rfl⟩
abbrev main_v1486 : Ref sig .tc := ⟨.hbm, 2220, rfl⟩
abbrev main_v1487 : Ref sig .tc := ⟨.hbm, 2221, rfl⟩
abbrev main_c_464 : Ref sig .tc := ⟨.hbm, 2222, rfl⟩
abbrev main_v1488 : Ref sig .tc := ⟨.hbm, 2223, rfl⟩
abbrev main_v1489 : Ref sig .tc := ⟨.hbm, 2224, rfl⟩
abbrev main_c_465 : Ref sig .tc := ⟨.hbm, 2225, rfl⟩
abbrev main_v1490 : Ref sig .tc := ⟨.hbm, 2226, rfl⟩
abbrev main_v1491 : Ref sig .tc := ⟨.hbm, 2227, rfl⟩
abbrev main_v1492 : Ref sig .tc := ⟨.hbm, 2228, rfl⟩
abbrev main_c_466 : Ref sig .tc := ⟨.hbm, 2229, rfl⟩
abbrev main_v1493 : Ref sig .tc := ⟨.hbm, 2230, rfl⟩
abbrev main_v1494 : Ref sig .tc := ⟨.hbm, 2231, rfl⟩
abbrev main_c_467 : Ref sig .tc := ⟨.hbm, 2232, rfl⟩
abbrev main_v1495 : Ref sig .tc := ⟨.hbm, 2233, rfl⟩
abbrev main_v1496 : Ref sig .tc := ⟨.hbm, 2234, rfl⟩
abbrev main_v1497 : Ref sig .tc := ⟨.hbm, 2235, rfl⟩
abbrev main_v1498 : Ref sig .tc := ⟨.hbm, 2236, rfl⟩
abbrev main_v1499 : Ref sig .tc := ⟨.hbm, 2237, rfl⟩
abbrev main_v1500 : Ref sig .tc := ⟨.hbm, 2238, rfl⟩
abbrev main_v1501 : Ref sig .tc := ⟨.hbm, 2239, rfl⟩
abbrev main_c_468 : Ref sig .tc := ⟨.hbm, 2240, rfl⟩
abbrev main_v1502 : Ref sig .tc := ⟨.hbm, 2241, rfl⟩
abbrev main_v1503 : Ref sig .tc := ⟨.hbm, 2242, rfl⟩
abbrev main_c_469 : Ref sig .tc := ⟨.hbm, 2243, rfl⟩
abbrev main_v1504 : Ref sig .tc := ⟨.hbm, 2244, rfl⟩
abbrev main_v1505 : Ref sig .tc := ⟨.hbm, 2245, rfl⟩
abbrev main_v1506 : Ref sig .tc := ⟨.hbm, 2246, rfl⟩
abbrev main_c_470 : Ref sig .tc := ⟨.hbm, 2247, rfl⟩
abbrev main_v1507 : Ref sig .tc := ⟨.hbm, 2248, rfl⟩
abbrev main_v1508 : Ref sig .tc := ⟨.hbm, 2249, rfl⟩
abbrev main_c_471 : Ref sig .tc := ⟨.hbm, 2250, rfl⟩
abbrev main_v1509 : Ref sig .tc := ⟨.hbm, 2251, rfl⟩
abbrev main_v1510 : Ref sig .tc := ⟨.hbm, 2252, rfl⟩
abbrev main_v1511 : Ref sig .tc := ⟨.hbm, 2253, rfl⟩
abbrev main_v1512 : Ref sig .tc := ⟨.hbm, 2254, rfl⟩
abbrev main_v1513 : Ref sig .tc := ⟨.hbm, 2255, rfl⟩
abbrev main_v1514 : Ref sig .tc := ⟨.hbm, 2256, rfl⟩
abbrev main_v1515 : Ref sig .tc := ⟨.hbm, 2257, rfl⟩
abbrev main_c_472 : Ref sig .tc := ⟨.hbm, 2258, rfl⟩
abbrev main_v1516 : Ref sig .tc := ⟨.hbm, 2259, rfl⟩
abbrev main_v1517 : Ref sig .tc := ⟨.hbm, 2260, rfl⟩
abbrev main_c_473 : Ref sig .tc := ⟨.hbm, 2261, rfl⟩
abbrev main_v1518 : Ref sig .tc := ⟨.hbm, 2262, rfl⟩
abbrev main_v1519 : Ref sig .tc := ⟨.hbm, 2263, rfl⟩
abbrev main_v1520 : Ref sig .tc := ⟨.hbm, 2264, rfl⟩
abbrev main_c_474 : Ref sig .tc := ⟨.hbm, 2265, rfl⟩
abbrev main_v1521 : Ref sig .tc := ⟨.hbm, 2266, rfl⟩
abbrev main_v1522 : Ref sig .tc := ⟨.hbm, 2267, rfl⟩
abbrev main_c_475 : Ref sig .tc := ⟨.hbm, 2268, rfl⟩
abbrev main_v1523 : Ref sig .tc := ⟨.hbm, 2269, rfl⟩
abbrev main_v1524 : Ref sig .tc := ⟨.hbm, 2270, rfl⟩
abbrev main_v1525 : Ref sig .tc := ⟨.hbm, 2271, rfl⟩
abbrev main_v1526 : Ref sig .tc := ⟨.hbm, 2272, rfl⟩
abbrev main_v1527 : Ref sig .tc := ⟨.hbm, 2273, rfl⟩
abbrev main_v1528 : Ref sig .tc := ⟨.hbm, 2274, rfl⟩
abbrev main_v1529 : Ref sig .tc := ⟨.hbm, 2275, rfl⟩
abbrev main_cst_476 : Ref sig .tc := ⟨.hbm, 2276, rfl⟩
abbrev main_v1530 : Ref sig .tc := ⟨.hbm, 2277, rfl⟩
abbrev main_v1531 : Ref sig .tc := ⟨.hbm, 2278, rfl⟩
abbrev main_v1532 : Ref sig .tc := ⟨.hbm, 2279, rfl⟩
abbrev main_v1533 : Ref sig .tc := ⟨.hbm, 2280, rfl⟩
abbrev main_v1534 : Ref sig .tc := ⟨.hbm, 2281, rfl⟩
abbrev main_cst_477 : Ref sig .tc := ⟨.hbm, 2282, rfl⟩
abbrev main_v1535 : Ref sig .tc := ⟨.hbm, 2283, rfl⟩
abbrev main_v1536 : Ref sig .tc := ⟨.hbm, 2284, rfl⟩
abbrev main_v1537 : Ref sig .tc := ⟨.hbm, 2285, rfl⟩
abbrev main_v1538 : Ref sig .tc := ⟨.hbm, 2286, rfl⟩
abbrev main_v1539 : Ref sig .tc := ⟨.hbm, 2287, rfl⟩
abbrev main_v1540 : Ref sig .tc := ⟨.hbm, 2288, rfl⟩
abbrev main_v1541 : Ref sig .tc := ⟨.hbm, 2289, rfl⟩
abbrev main_v1542 : Ref sig .tc := ⟨.hbm, 2290, rfl⟩
abbrev main_cst_478 : Ref sig .tc := ⟨.hbm, 2291, rfl⟩
abbrev main_v1543 : Ref sig .tc := ⟨.hbm, 2292, rfl⟩
abbrev main_v1544 : Ref sig .tc := ⟨.hbm, 2293, rfl⟩
abbrev main_v1545 : Ref sig .tc := ⟨.hbm, 2294, rfl⟩
abbrev main_v1546 : Ref sig .tc := ⟨.hbm, 2295, rfl⟩
abbrev main_v1547 : Ref sig .tc := ⟨.hbm, 2296, rfl⟩
abbrev main_v1548 : Ref sig .tc := ⟨.hbm, 2297, rfl⟩
abbrev main_cst_479 : Ref sig .tc := ⟨.hbm, 2298, rfl⟩
abbrev main_v1549 : Ref sig .tc := ⟨.hbm, 2299, rfl⟩
abbrev main_v1550 : Ref sig .tc := ⟨.hbm, 2300, rfl⟩
abbrev main_v1551 : Ref sig .tc := ⟨.hbm, 2301, rfl⟩
abbrev main_v1552 : Ref sig .tc := ⟨.hbm, 2302, rfl⟩
abbrev main_v1553 : Ref sig .tc := ⟨.hbm, 2303, rfl⟩
abbrev main_v1554 : Ref sig .tc := ⟨.hbm, 2304, rfl⟩
abbrev main_v1555 : Ref sig .tc := ⟨.hbm, 2305, rfl⟩
abbrev main_v1556 : Ref sig .tc := ⟨.hbm, 2306, rfl⟩
abbrev main_v1557 : Ref sig .tc := ⟨.hbm, 2307, rfl⟩
abbrev main_v1558 : Ref sig .tc := ⟨.hbm, 2308, rfl⟩
abbrev main_v1559 : Ref sig .tc := ⟨.hbm, 2309, rfl⟩
abbrev main_v1560 : Ref sig .tc := ⟨.hbm, 2310, rfl⟩
abbrev main_v1561 : Ref sig .tc := ⟨.hbm, 2311, rfl⟩
abbrev main_v1562 : Ref sig .tc := ⟨.hbm, 2312, rfl⟩
abbrev main_v1563 : Ref sig .tc := ⟨.hbm, 2313, rfl⟩
abbrev main_v1564 : Ref sig .tc := ⟨.hbm, 2314, rfl⟩
abbrev main_v1565 : Ref sig .tc := ⟨.hbm, 2315, rfl⟩
abbrev main_v1566 : Ref sig .tc := ⟨.hbm, 2316, rfl⟩
abbrev main_c_480 : Ref sig .tc := ⟨.hbm, 2317, rfl⟩
abbrev main_v1567 : Ref sig .tc := ⟨.hbm, 2318, rfl⟩
abbrev main_v1568 : Ref sig .tc := ⟨.hbm, 2319, rfl⟩
abbrev main_c_481 : Ref sig .tc := ⟨.hbm, 2320, rfl⟩
abbrev main_v1569 : Ref sig .tc := ⟨.hbm, 2321, rfl⟩
abbrev main_v1570 : Ref sig .tc := ⟨.hbm, 2322, rfl⟩
abbrev main_v1571 : Ref sig .tc := ⟨.hbm, 2323, rfl⟩
abbrev main_v1572 : Ref sig .tc := ⟨.hbm, 2324, rfl⟩
abbrev main_v1573 : Ref sig .tc := ⟨.hbm, 2325, rfl⟩
abbrev main_v1574 : Ref sig .tc := ⟨.hbm, 2326, rfl⟩
abbrev main_v1575 : Ref sig .tc := ⟨.hbm, 2327, rfl⟩
abbrev main_cst_482 : Ref sig .tc := ⟨.hbm, 2328, rfl⟩
abbrev main_v1576 : Ref sig .tc := ⟨.hbm, 2329, rfl⟩
abbrev main_v1577 : Ref sig .tc := ⟨.hbm, 2330, rfl⟩
abbrev main_cst_483 : Ref sig .tc := ⟨.hbm, 2331, rfl⟩
abbrev main_v1578 : Ref sig .tc := ⟨.hbm, 2332, rfl⟩
abbrev main_v1579 : Ref sig .tc := ⟨.hbm, 2333, rfl⟩
abbrev main_cst_484 : Ref sig .tc := ⟨.hbm, 2334, rfl⟩
abbrev main_v1580 : Ref sig .tc := ⟨.hbm, 2335, rfl⟩
abbrev main_v1581 : Ref sig .tc := ⟨.hbm, 2336, rfl⟩
abbrev main_v1582 : Ref sig .tc := ⟨.hbm, 2337, rfl⟩
abbrev main_v1583 : Ref sig .tc := ⟨.hbm, 2338, rfl⟩
abbrev main_cst_485 : Ref sig .tc := ⟨.hbm, 2339, rfl⟩
abbrev main_v1584 : Ref sig .tc := ⟨.hbm, 2340, rfl⟩
abbrev main_v1585 : Ref sig .tc := ⟨.hbm, 2341, rfl⟩
abbrev main_cst_486 : Ref sig .tc := ⟨.hbm, 2342, rfl⟩
abbrev main_v1586 : Ref sig .tc := ⟨.hbm, 2343, rfl⟩
abbrev main_v1587 : Ref sig .tc := ⟨.hbm, 2344, rfl⟩
abbrev main_cst_487 : Ref sig .tc := ⟨.hbm, 2345, rfl⟩
abbrev main_v1588 : Ref sig .tc := ⟨.hbm, 2346, rfl⟩
abbrev main_v1589 : Ref sig .tc := ⟨.hbm, 2347, rfl⟩
abbrev main_v1590 : Ref sig .tc := ⟨.hbm, 2348, rfl⟩
abbrev main_v1591 : Ref sig .tc := ⟨.hbm, 2349, rfl⟩
abbrev main_v1592 : Ref sig .tc := ⟨.hbm, 2350, rfl⟩
abbrev main_v1593 : Ref sig .tc := ⟨.hbm, 2351, rfl⟩
abbrev main_v1594 : Ref sig .tc := ⟨.hbm, 2352, rfl⟩
abbrev main_c_488 : Ref sig .tc := ⟨.hbm, 2353, rfl⟩
abbrev main_c_489 : Ref sig .tc := ⟨.hbm, 2354, rfl⟩
abbrev main_call48_v0 : Ref sig .tc := ⟨.hbm, 2355, rfl⟩
abbrev main_call48_v1 : Ref sig .tc := ⟨.hbm, 2356, rfl⟩
abbrev main_call48_v2 : Ref sig .tc := ⟨.hbm, 2357, rfl⟩
abbrev main_call48_v3 : Ref sig .tc := ⟨.hbm, 2358, rfl⟩
abbrev main_call48_v4 : Ref sig .tc := ⟨.hbm, 2359, rfl⟩
abbrev main_v1595 : Ref sig .tc := ⟨.hbm, 2360, rfl⟩
abbrev main_c_490 : Ref sig .tc := ⟨.hbm, 2361, rfl⟩
abbrev main_v1596 : Ref sig .tc := ⟨.hbm, 2362, rfl⟩
abbrev main_v1597 : Ref sig .tc := ⟨.hbm, 2363, rfl⟩
abbrev main_c_491 : Ref sig .tc := ⟨.hbm, 2364, rfl⟩
abbrev main_c_492 : Ref sig .tc := ⟨.hbm, 2365, rfl⟩
abbrev main_call49_v0 : Ref sig .tc := ⟨.hbm, 2366, rfl⟩
abbrev main_call49_v1 : Ref sig .tc := ⟨.hbm, 2367, rfl⟩
abbrev main_call49_v2 : Ref sig .tc := ⟨.hbm, 2368, rfl⟩
abbrev main_call49_v3 : Ref sig .tc := ⟨.hbm, 2369, rfl⟩
abbrev main_call49_v4 : Ref sig .tc := ⟨.hbm, 2370, rfl⟩
abbrev main_v1598 : Ref sig .tc := ⟨.hbm, 2371, rfl⟩
abbrev main_v1599 : Ref sig .tc := ⟨.hbm, 2372, rfl⟩
abbrev main_c_493 : Ref sig .tc := ⟨.hbm, 2373, rfl⟩
abbrev main_c_494 : Ref sig .tc := ⟨.hbm, 2374, rfl⟩
abbrev main_call50_v0 : Ref sig .tc := ⟨.hbm, 2375, rfl⟩
abbrev main_call50_v1 : Ref sig .tc := ⟨.hbm, 2376, rfl⟩
abbrev main_call50_v2 : Ref sig .tc := ⟨.hbm, 2377, rfl⟩
abbrev main_call50_v3 : Ref sig .tc := ⟨.hbm, 2378, rfl⟩
abbrev main_call50_v4 : Ref sig .tc := ⟨.hbm, 2379, rfl⟩
abbrev main_v1600 : Ref sig .tc := ⟨.hbm, 2380, rfl⟩
abbrev main_c_495 : Ref sig .tc := ⟨.hbm, 2381, rfl⟩
abbrev main_v1601 : Ref sig .tc := ⟨.hbm, 2382, rfl⟩
abbrev main_v1602 : Ref sig .tc := ⟨.hbm, 2383, rfl⟩
abbrev main_c_496 : Ref sig .tc := ⟨.hbm, 2384, rfl⟩
abbrev main_c_497 : Ref sig .tc := ⟨.hbm, 2385, rfl⟩
abbrev main_call51_v0 : Ref sig .tc := ⟨.hbm, 2386, rfl⟩
abbrev main_call51_v1 : Ref sig .tc := ⟨.hbm, 2387, rfl⟩
abbrev main_call51_v2 : Ref sig .tc := ⟨.hbm, 2388, rfl⟩
abbrev main_call51_v3 : Ref sig .tc := ⟨.hbm, 2389, rfl⟩
abbrev main_call51_v4 : Ref sig .tc := ⟨.hbm, 2390, rfl⟩
abbrev main_v1603 : Ref sig .tc := ⟨.hbm, 2391, rfl⟩
abbrev main_c_498 : Ref sig .tc := ⟨.hbm, 2392, rfl⟩
abbrev main_v1604 : Ref sig .tc := ⟨.hbm, 2393, rfl⟩
abbrev main_v1605 : Ref sig .tc := ⟨.hbm, 2394, rfl⟩
abbrev main_c_499 : Ref sig .tc := ⟨.hbm, 2395, rfl⟩
abbrev main_v1606 : Ref sig .tc := ⟨.hbm, 2396, rfl⟩
abbrev main_v1607 : Ref sig .tc := ⟨.hbm, 2397, rfl⟩
abbrev main_v1608 : Ref sig .tc := ⟨.hbm, 2398, rfl⟩
abbrev main_c_500 : Ref sig .tc := ⟨.hbm, 2399, rfl⟩
abbrev main_v1609 : Ref sig .tc := ⟨.hbm, 2400, rfl⟩
abbrev main_v1610 : Ref sig .tc := ⟨.hbm, 2401, rfl⟩
abbrev main_c_501 : Ref sig .tc := ⟨.hbm, 2402, rfl⟩
abbrev main_v1611 : Ref sig .tc := ⟨.hbm, 2403, rfl⟩
abbrev main_v1612 : Ref sig .tc := ⟨.hbm, 2404, rfl⟩
abbrev main_v1613 : Ref sig .tc := ⟨.hbm, 2405, rfl⟩
abbrev main_v1614 : Ref sig .tc := ⟨.hbm, 2406, rfl⟩
abbrev main_v1615 : Ref sig .tc := ⟨.hbm, 2407, rfl⟩
abbrev main_v1616 : Ref sig .tc := ⟨.hbm, 2408, rfl⟩
abbrev main_v1617 : Ref sig .tc := ⟨.hbm, 2409, rfl⟩
abbrev main_c_502 : Ref sig .tc := ⟨.hbm, 2410, rfl⟩
abbrev main_v1618 : Ref sig .tc := ⟨.hbm, 2411, rfl⟩
abbrev main_v1619 : Ref sig .tc := ⟨.hbm, 2412, rfl⟩
abbrev main_c_503 : Ref sig .tc := ⟨.hbm, 2413, rfl⟩
abbrev main_v1620 : Ref sig .tc := ⟨.hbm, 2414, rfl⟩
abbrev main_v1621 : Ref sig .tc := ⟨.hbm, 2415, rfl⟩
abbrev main_v1622 : Ref sig .tc := ⟨.hbm, 2416, rfl⟩
abbrev main_c_504 : Ref sig .tc := ⟨.hbm, 2417, rfl⟩
abbrev main_v1623 : Ref sig .tc := ⟨.hbm, 2418, rfl⟩
abbrev main_v1624 : Ref sig .tc := ⟨.hbm, 2419, rfl⟩
abbrev main_c_505 : Ref sig .tc := ⟨.hbm, 2420, rfl⟩
abbrev main_v1625 : Ref sig .tc := ⟨.hbm, 2421, rfl⟩
abbrev main_v1626 : Ref sig .tc := ⟨.hbm, 2422, rfl⟩
abbrev main_v1627 : Ref sig .tc := ⟨.hbm, 2423, rfl⟩
abbrev main_v1628 : Ref sig .tc := ⟨.hbm, 2424, rfl⟩
abbrev main_v1629 : Ref sig .tc := ⟨.hbm, 2425, rfl⟩
abbrev main_v1630 : Ref sig .tc := ⟨.hbm, 2426, rfl⟩
abbrev main_v1631 : Ref sig .tc := ⟨.hbm, 2427, rfl⟩
abbrev main_c_506 : Ref sig .tc := ⟨.hbm, 2428, rfl⟩
abbrev main_v1632 : Ref sig .tc := ⟨.hbm, 2429, rfl⟩
abbrev main_v1633 : Ref sig .tc := ⟨.hbm, 2430, rfl⟩
abbrev main_c_507 : Ref sig .tc := ⟨.hbm, 2431, rfl⟩
abbrev main_v1634 : Ref sig .tc := ⟨.hbm, 2432, rfl⟩
abbrev main_v1635 : Ref sig .tc := ⟨.hbm, 2433, rfl⟩
abbrev main_v1636 : Ref sig .tc := ⟨.hbm, 2434, rfl⟩
abbrev main_c_508 : Ref sig .tc := ⟨.hbm, 2435, rfl⟩
abbrev main_v1637 : Ref sig .tc := ⟨.hbm, 2436, rfl⟩
abbrev main_v1638 : Ref sig .tc := ⟨.hbm, 2437, rfl⟩
abbrev main_c_509 : Ref sig .tc := ⟨.hbm, 2438, rfl⟩
abbrev main_v1639 : Ref sig .tc := ⟨.hbm, 2439, rfl⟩
abbrev main_v1640 : Ref sig .tc := ⟨.hbm, 2440, rfl⟩
abbrev main_v1641 : Ref sig .tc := ⟨.hbm, 2441, rfl⟩
abbrev main_v1642 : Ref sig .tc := ⟨.hbm, 2442, rfl⟩
abbrev main_v1643 : Ref sig .tc := ⟨.hbm, 2443, rfl⟩
abbrev main_v1644 : Ref sig .tc := ⟨.hbm, 2444, rfl⟩
abbrev main_v1645 : Ref sig .tc := ⟨.hbm, 2445, rfl⟩
abbrev main_c_510 : Ref sig .tc := ⟨.hbm, 2446, rfl⟩
abbrev main_v1646 : Ref sig .tc := ⟨.hbm, 2447, rfl⟩
abbrev main_v1647 : Ref sig .tc := ⟨.hbm, 2448, rfl⟩
abbrev main_c_511 : Ref sig .tc := ⟨.hbm, 2449, rfl⟩
abbrev main_v1648 : Ref sig .tc := ⟨.hbm, 2450, rfl⟩
abbrev main_v1649 : Ref sig .tc := ⟨.hbm, 2451, rfl⟩
abbrev main_v1650 : Ref sig .tc := ⟨.hbm, 2452, rfl⟩
abbrev main_c_512 : Ref sig .tc := ⟨.hbm, 2453, rfl⟩
abbrev main_v1651 : Ref sig .tc := ⟨.hbm, 2454, rfl⟩
abbrev main_v1652 : Ref sig .tc := ⟨.hbm, 2455, rfl⟩
abbrev main_c_513 : Ref sig .tc := ⟨.hbm, 2456, rfl⟩
abbrev main_v1653 : Ref sig .tc := ⟨.hbm, 2457, rfl⟩
abbrev main_v1654 : Ref sig .tc := ⟨.hbm, 2458, rfl⟩
abbrev main_v1655 : Ref sig .tc := ⟨.hbm, 2459, rfl⟩
abbrev main_v1656 : Ref sig .tc := ⟨.hbm, 2460, rfl⟩
abbrev main_v1657 : Ref sig .tc := ⟨.hbm, 2461, rfl⟩
abbrev main_v1658 : Ref sig .tc := ⟨.hbm, 2462, rfl⟩
abbrev main_v1659 : Ref sig .tc := ⟨.hbm, 2463, rfl⟩
abbrev main_cst_514 : Ref sig .tc := ⟨.hbm, 2464, rfl⟩
abbrev main_v1660 : Ref sig .tc := ⟨.hbm, 2465, rfl⟩
abbrev main_v1661 : Ref sig .tc := ⟨.hbm, 2466, rfl⟩
abbrev main_v1662 : Ref sig .tc := ⟨.hbm, 2467, rfl⟩
abbrev main_v1663 : Ref sig .tc := ⟨.hbm, 2468, rfl⟩
abbrev main_v1664 : Ref sig .tc := ⟨.hbm, 2469, rfl⟩
abbrev main_cst_515 : Ref sig .tc := ⟨.hbm, 2470, rfl⟩
abbrev main_v1665 : Ref sig .tc := ⟨.hbm, 2471, rfl⟩
abbrev main_v1666 : Ref sig .tc := ⟨.hbm, 2472, rfl⟩
abbrev main_v1667 : Ref sig .tc := ⟨.hbm, 2473, rfl⟩
abbrev main_v1668 : Ref sig .tc := ⟨.hbm, 2474, rfl⟩
abbrev main_v1669 : Ref sig .tc := ⟨.hbm, 2475, rfl⟩
abbrev main_v1670 : Ref sig .tc := ⟨.hbm, 2476, rfl⟩
abbrev main_v1671 : Ref sig .tc := ⟨.hbm, 2477, rfl⟩
abbrev main_v1672 : Ref sig .tc := ⟨.hbm, 2478, rfl⟩
abbrev main_cst_516 : Ref sig .tc := ⟨.hbm, 2479, rfl⟩
abbrev main_v1673 : Ref sig .tc := ⟨.hbm, 2480, rfl⟩
abbrev main_v1674 : Ref sig .tc := ⟨.hbm, 2481, rfl⟩
abbrev main_v1675 : Ref sig .tc := ⟨.hbm, 2482, rfl⟩
abbrev main_v1676 : Ref sig .tc := ⟨.hbm, 2483, rfl⟩
abbrev main_v1677 : Ref sig .tc := ⟨.hbm, 2484, rfl⟩
abbrev main_v1678 : Ref sig .tc := ⟨.hbm, 2485, rfl⟩
abbrev main_cst_517 : Ref sig .tc := ⟨.hbm, 2486, rfl⟩
abbrev main_v1679 : Ref sig .tc := ⟨.hbm, 2487, rfl⟩
abbrev main_v1680 : Ref sig .tc := ⟨.hbm, 2488, rfl⟩
abbrev main_v1681 : Ref sig .tc := ⟨.hbm, 2489, rfl⟩
abbrev main_v1682 : Ref sig .tc := ⟨.hbm, 2490, rfl⟩
abbrev main_v1683 : Ref sig .tc := ⟨.hbm, 2491, rfl⟩
abbrev main_v1684 : Ref sig .tc := ⟨.hbm, 2492, rfl⟩
abbrev main_v1685 : Ref sig .tc := ⟨.hbm, 2493, rfl⟩
abbrev main_v1686 : Ref sig .tc := ⟨.hbm, 2494, rfl⟩
abbrev main_v1687 : Ref sig .tc := ⟨.hbm, 2495, rfl⟩
abbrev main_v1688 : Ref sig .tc := ⟨.hbm, 2496, rfl⟩
abbrev main_v1689 : Ref sig .tc := ⟨.hbm, 2497, rfl⟩
abbrev main_v1690 : Ref sig .tc := ⟨.hbm, 2498, rfl⟩
abbrev main_v1691 : Ref sig .tc := ⟨.hbm, 2499, rfl⟩
abbrev main_v1692 : Ref sig .tc := ⟨.hbm, 2500, rfl⟩
abbrev main_v1693 : Ref sig .tc := ⟨.hbm, 2501, rfl⟩
abbrev main_v1694 : Ref sig .tc := ⟨.hbm, 2502, rfl⟩
abbrev main_v1695 : Ref sig .tc := ⟨.hbm, 2503, rfl⟩
abbrev main_c_518 : Ref sig .tc := ⟨.hbm, 2504, rfl⟩
abbrev main_v1696 : Ref sig .tc := ⟨.hbm, 2505, rfl⟩
abbrev main_v1697 : Ref sig .tc := ⟨.hbm, 2506, rfl⟩
abbrev main_c_519 : Ref sig .tc := ⟨.hbm, 2507, rfl⟩
abbrev main_v1698 : Ref sig .tc := ⟨.hbm, 2508, rfl⟩
abbrev main_v1699 : Ref sig .tc := ⟨.hbm, 2509, rfl⟩
abbrev main_v1700 : Ref sig .tc := ⟨.hbm, 2510, rfl⟩
abbrev main_v1701 : Ref sig .tc := ⟨.hbm, 2511, rfl⟩
abbrev main_v1702 : Ref sig .tc := ⟨.hbm, 2512, rfl⟩
abbrev main_v1703 : Ref sig .tc := ⟨.hbm, 2513, rfl⟩
abbrev main_v1704 : Ref sig .tc := ⟨.hbm, 2514, rfl⟩
abbrev main_cst_520 : Ref sig .tc := ⟨.hbm, 2515, rfl⟩
abbrev main_v1705 : Ref sig .tc := ⟨.hbm, 2516, rfl⟩
abbrev main_v1706 : Ref sig .tc := ⟨.hbm, 2517, rfl⟩
abbrev main_cst_521 : Ref sig .tc := ⟨.hbm, 2518, rfl⟩
abbrev main_v1707 : Ref sig .tc := ⟨.hbm, 2519, rfl⟩
abbrev main_v1708 : Ref sig .tc := ⟨.hbm, 2520, rfl⟩
abbrev main_cst_522 : Ref sig .tc := ⟨.hbm, 2521, rfl⟩
abbrev main_v1709 : Ref sig .tc := ⟨.hbm, 2522, rfl⟩
abbrev main_v1710 : Ref sig .tc := ⟨.hbm, 2523, rfl⟩
abbrev main_v1711 : Ref sig .tc := ⟨.hbm, 2524, rfl⟩
abbrev main_v1712 : Ref sig .tc := ⟨.hbm, 2525, rfl⟩
abbrev main_cst_523 : Ref sig .tc := ⟨.hbm, 2526, rfl⟩
abbrev main_v1713 : Ref sig .tc := ⟨.hbm, 2527, rfl⟩
abbrev main_v1714 : Ref sig .tc := ⟨.hbm, 2528, rfl⟩
abbrev main_cst_524 : Ref sig .tc := ⟨.hbm, 2529, rfl⟩
abbrev main_v1715 : Ref sig .tc := ⟨.hbm, 2530, rfl⟩
abbrev main_v1716 : Ref sig .tc := ⟨.hbm, 2531, rfl⟩
abbrev main_cst_525 : Ref sig .tc := ⟨.hbm, 2532, rfl⟩
abbrev main_v1717 : Ref sig .tc := ⟨.hbm, 2533, rfl⟩
abbrev main_v1718 : Ref sig .tc := ⟨.hbm, 2534, rfl⟩
abbrev main_v1719 : Ref sig .tc := ⟨.hbm, 2535, rfl⟩
abbrev main_v1720 : Ref sig .tc := ⟨.hbm, 2536, rfl⟩
abbrev main_v1721 : Ref sig .tc := ⟨.hbm, 2537, rfl⟩
abbrev main_v1722 : Ref sig .tc := ⟨.hbm, 2538, rfl⟩
abbrev main_v1723 : Ref sig .tc := ⟨.hbm, 2539, rfl⟩
abbrev main_c_526 : Ref sig .tc := ⟨.hbm, 2540, rfl⟩
abbrev main_c_527 : Ref sig .tc := ⟨.hbm, 2541, rfl⟩
abbrev main_call52_v0 : Ref sig .tc := ⟨.hbm, 2542, rfl⟩
abbrev main_call52_v1 : Ref sig .tc := ⟨.hbm, 2543, rfl⟩
abbrev main_call52_v2 : Ref sig .tc := ⟨.hbm, 2544, rfl⟩
abbrev main_call52_v3 : Ref sig .tc := ⟨.hbm, 2545, rfl⟩
abbrev main_call52_v4 : Ref sig .tc := ⟨.hbm, 2546, rfl⟩
abbrev main_v1724 : Ref sig .tc := ⟨.hbm, 2547, rfl⟩
abbrev main_c_528 : Ref sig .tc := ⟨.hbm, 2548, rfl⟩
abbrev main_v1725 : Ref sig .tc := ⟨.hbm, 2549, rfl⟩
abbrev main_v1726 : Ref sig .tc := ⟨.hbm, 2550, rfl⟩
abbrev main_c_529 : Ref sig .tc := ⟨.hbm, 2551, rfl⟩
abbrev main_c_530 : Ref sig .tc := ⟨.hbm, 2552, rfl⟩
abbrev main_call53_v0 : Ref sig .tc := ⟨.hbm, 2553, rfl⟩
abbrev main_call53_v1 : Ref sig .tc := ⟨.hbm, 2554, rfl⟩
abbrev main_call53_v2 : Ref sig .tc := ⟨.hbm, 2555, rfl⟩
abbrev main_call53_v3 : Ref sig .tc := ⟨.hbm, 2556, rfl⟩
abbrev main_call53_v4 : Ref sig .tc := ⟨.hbm, 2557, rfl⟩
abbrev main_v1727 : Ref sig .tc := ⟨.hbm, 2558, rfl⟩
abbrev main_v1728 : Ref sig .tc := ⟨.hbm, 2559, rfl⟩
abbrev main_c_531 : Ref sig .tc := ⟨.hbm, 2560, rfl⟩
abbrev main_c_532 : Ref sig .tc := ⟨.hbm, 2561, rfl⟩
abbrev main_call54_v0 : Ref sig .tc := ⟨.hbm, 2562, rfl⟩
abbrev main_call54_v1 : Ref sig .tc := ⟨.hbm, 2563, rfl⟩
abbrev main_call54_v2 : Ref sig .tc := ⟨.hbm, 2564, rfl⟩
abbrev main_call54_v3 : Ref sig .tc := ⟨.hbm, 2565, rfl⟩
abbrev main_call54_v4 : Ref sig .tc := ⟨.hbm, 2566, rfl⟩
abbrev main_v1729 : Ref sig .tc := ⟨.hbm, 2567, rfl⟩
abbrev main_c_533 : Ref sig .tc := ⟨.hbm, 2568, rfl⟩
abbrev main_v1730 : Ref sig .tc := ⟨.hbm, 2569, rfl⟩
abbrev main_v1731 : Ref sig .tc := ⟨.hbm, 2570, rfl⟩
abbrev main_c_534 : Ref sig .tc := ⟨.hbm, 2571, rfl⟩
abbrev main_c_535 : Ref sig .tc := ⟨.hbm, 2572, rfl⟩
abbrev main_call55_v0 : Ref sig .tc := ⟨.hbm, 2573, rfl⟩
abbrev main_call55_v1 : Ref sig .tc := ⟨.hbm, 2574, rfl⟩
abbrev main_call55_v2 : Ref sig .tc := ⟨.hbm, 2575, rfl⟩
abbrev main_call55_v3 : Ref sig .tc := ⟨.hbm, 2576, rfl⟩
abbrev main_call55_v4 : Ref sig .tc := ⟨.hbm, 2577, rfl⟩
abbrev main_v1732 : Ref sig .tc := ⟨.hbm, 2578, rfl⟩
abbrev main_c_536 : Ref sig .tc := ⟨.hbm, 2579, rfl⟩
abbrev main_v1733 : Ref sig .tc := ⟨.hbm, 2580, rfl⟩
abbrev main_v1734 : Ref sig .tc := ⟨.hbm, 2581, rfl⟩
abbrev main_c_537 : Ref sig .tc := ⟨.hbm, 2582, rfl⟩
abbrev main_v1735 : Ref sig .tc := ⟨.hbm, 2583, rfl⟩
abbrev main_v1736 : Ref sig .tc := ⟨.hbm, 2584, rfl⟩
abbrev main_v1737 : Ref sig .tc := ⟨.hbm, 2585, rfl⟩
abbrev main_c_538 : Ref sig .tc := ⟨.hbm, 2586, rfl⟩
abbrev main_v1738 : Ref sig .tc := ⟨.hbm, 2587, rfl⟩
abbrev main_v1739 : Ref sig .tc := ⟨.hbm, 2588, rfl⟩
abbrev main_c_539 : Ref sig .tc := ⟨.hbm, 2589, rfl⟩
abbrev main_v1740 : Ref sig .tc := ⟨.hbm, 2590, rfl⟩
abbrev main_v1741 : Ref sig .tc := ⟨.hbm, 2591, rfl⟩
abbrev main_v1742 : Ref sig .tc := ⟨.hbm, 2592, rfl⟩
abbrev main_v1743 : Ref sig .tc := ⟨.hbm, 2593, rfl⟩
abbrev main_v1744 : Ref sig .tc := ⟨.hbm, 2594, rfl⟩
abbrev main_v1745 : Ref sig .tc := ⟨.hbm, 2595, rfl⟩
abbrev main_v1746 : Ref sig .tc := ⟨.hbm, 2596, rfl⟩
abbrev main_c_540 : Ref sig .tc := ⟨.hbm, 2597, rfl⟩
abbrev main_v1747 : Ref sig .tc := ⟨.hbm, 2598, rfl⟩
abbrev main_v1748 : Ref sig .tc := ⟨.hbm, 2599, rfl⟩
abbrev main_c_541 : Ref sig .tc := ⟨.hbm, 2600, rfl⟩
abbrev main_v1749 : Ref sig .tc := ⟨.hbm, 2601, rfl⟩
abbrev main_v1750 : Ref sig .tc := ⟨.hbm, 2602, rfl⟩
abbrev main_v1751 : Ref sig .tc := ⟨.hbm, 2603, rfl⟩
abbrev main_c_542 : Ref sig .tc := ⟨.hbm, 2604, rfl⟩
abbrev main_v1752 : Ref sig .tc := ⟨.hbm, 2605, rfl⟩
abbrev main_v1753 : Ref sig .tc := ⟨.hbm, 2606, rfl⟩
abbrev main_c_543 : Ref sig .tc := ⟨.hbm, 2607, rfl⟩
abbrev main_v1754 : Ref sig .tc := ⟨.hbm, 2608, rfl⟩
abbrev main_v1755 : Ref sig .tc := ⟨.hbm, 2609, rfl⟩
abbrev main_v1756 : Ref sig .tc := ⟨.hbm, 2610, rfl⟩
abbrev main_v1757 : Ref sig .tc := ⟨.hbm, 2611, rfl⟩
abbrev main_v1758 : Ref sig .tc := ⟨.hbm, 2612, rfl⟩
abbrev main_v1759 : Ref sig .tc := ⟨.hbm, 2613, rfl⟩
abbrev main_v1760 : Ref sig .tc := ⟨.hbm, 2614, rfl⟩
abbrev main_c_544 : Ref sig .tc := ⟨.hbm, 2615, rfl⟩
abbrev main_v1761 : Ref sig .tc := ⟨.hbm, 2616, rfl⟩
abbrev main_v1762 : Ref sig .tc := ⟨.hbm, 2617, rfl⟩
abbrev main_c_545 : Ref sig .tc := ⟨.hbm, 2618, rfl⟩
abbrev main_v1763 : Ref sig .tc := ⟨.hbm, 2619, rfl⟩
abbrev main_v1764 : Ref sig .tc := ⟨.hbm, 2620, rfl⟩
abbrev main_v1765 : Ref sig .tc := ⟨.hbm, 2621, rfl⟩
abbrev main_c_546 : Ref sig .tc := ⟨.hbm, 2622, rfl⟩
abbrev main_v1766 : Ref sig .tc := ⟨.hbm, 2623, rfl⟩
abbrev main_v1767 : Ref sig .tc := ⟨.hbm, 2624, rfl⟩
abbrev main_c_547 : Ref sig .tc := ⟨.hbm, 2625, rfl⟩
abbrev main_v1768 : Ref sig .tc := ⟨.hbm, 2626, rfl⟩
abbrev main_v1769 : Ref sig .tc := ⟨.hbm, 2627, rfl⟩
abbrev main_v1770 : Ref sig .tc := ⟨.hbm, 2628, rfl⟩
abbrev main_v1771 : Ref sig .tc := ⟨.hbm, 2629, rfl⟩
abbrev main_v1772 : Ref sig .tc := ⟨.hbm, 2630, rfl⟩
abbrev main_v1773 : Ref sig .tc := ⟨.hbm, 2631, rfl⟩
abbrev main_v1774 : Ref sig .tc := ⟨.hbm, 2632, rfl⟩
abbrev main_c_548 : Ref sig .tc := ⟨.hbm, 2633, rfl⟩
abbrev main_v1775 : Ref sig .tc := ⟨.hbm, 2634, rfl⟩
abbrev main_v1776 : Ref sig .tc := ⟨.hbm, 2635, rfl⟩
abbrev main_c_549 : Ref sig .tc := ⟨.hbm, 2636, rfl⟩
abbrev main_v1777 : Ref sig .tc := ⟨.hbm, 2637, rfl⟩
abbrev main_v1778 : Ref sig .tc := ⟨.hbm, 2638, rfl⟩
abbrev main_v1779 : Ref sig .tc := ⟨.hbm, 2639, rfl⟩
abbrev main_c_550 : Ref sig .tc := ⟨.hbm, 2640, rfl⟩
abbrev main_v1780 : Ref sig .tc := ⟨.hbm, 2641, rfl⟩
abbrev main_v1781 : Ref sig .tc := ⟨.hbm, 2642, rfl⟩
abbrev main_c_551 : Ref sig .tc := ⟨.hbm, 2643, rfl⟩
abbrev main_v1782 : Ref sig .tc := ⟨.hbm, 2644, rfl⟩
abbrev main_v1783 : Ref sig .tc := ⟨.hbm, 2645, rfl⟩
abbrev main_v1784 : Ref sig .tc := ⟨.hbm, 2646, rfl⟩
abbrev main_v1785 : Ref sig .tc := ⟨.hbm, 2647, rfl⟩
abbrev main_v1786 : Ref sig .tc := ⟨.hbm, 2648, rfl⟩
abbrev main_v1787 : Ref sig .tc := ⟨.hbm, 2649, rfl⟩
abbrev main_v1788 : Ref sig .tc := ⟨.hbm, 2650, rfl⟩
abbrev main_cst_552 : Ref sig .tc := ⟨.hbm, 2651, rfl⟩
abbrev main_v1789 : Ref sig .tc := ⟨.hbm, 2652, rfl⟩
abbrev main_v1790 : Ref sig .tc := ⟨.hbm, 2653, rfl⟩
abbrev main_v1791 : Ref sig .tc := ⟨.hbm, 2654, rfl⟩
abbrev main_v1792 : Ref sig .tc := ⟨.hbm, 2655, rfl⟩
abbrev main_v1793 : Ref sig .tc := ⟨.hbm, 2656, rfl⟩
abbrev main_cst_553 : Ref sig .tc := ⟨.hbm, 2657, rfl⟩
abbrev main_v1794 : Ref sig .tc := ⟨.hbm, 2658, rfl⟩
abbrev main_v1795 : Ref sig .tc := ⟨.hbm, 2659, rfl⟩
abbrev main_v1796 : Ref sig .tc := ⟨.hbm, 2660, rfl⟩
abbrev main_v1797 : Ref sig .tc := ⟨.hbm, 2661, rfl⟩
abbrev main_v1798 : Ref sig .tc := ⟨.hbm, 2662, rfl⟩
abbrev main_v1799 : Ref sig .tc := ⟨.hbm, 2663, rfl⟩
abbrev main_v1800 : Ref sig .tc := ⟨.hbm, 2664, rfl⟩
abbrev main_v1801 : Ref sig .tc := ⟨.hbm, 2665, rfl⟩
abbrev main_cst_554 : Ref sig .tc := ⟨.hbm, 2666, rfl⟩
abbrev main_v1802 : Ref sig .tc := ⟨.hbm, 2667, rfl⟩
abbrev main_v1803 : Ref sig .tc := ⟨.hbm, 2668, rfl⟩
abbrev main_v1804 : Ref sig .tc := ⟨.hbm, 2669, rfl⟩
abbrev main_v1805 : Ref sig .tc := ⟨.hbm, 2670, rfl⟩
abbrev main_v1806 : Ref sig .tc := ⟨.hbm, 2671, rfl⟩
abbrev main_v1807 : Ref sig .tc := ⟨.hbm, 2672, rfl⟩
abbrev main_cst_555 : Ref sig .tc := ⟨.hbm, 2673, rfl⟩
abbrev main_v1808 : Ref sig .tc := ⟨.hbm, 2674, rfl⟩
abbrev main_v1809 : Ref sig .tc := ⟨.hbm, 2675, rfl⟩
abbrev main_v1810 : Ref sig .tc := ⟨.hbm, 2676, rfl⟩
abbrev main_v1811 : Ref sig .tc := ⟨.hbm, 2677, rfl⟩
abbrev main_v1812 : Ref sig .tc := ⟨.hbm, 2678, rfl⟩
abbrev main_v1813 : Ref sig .tc := ⟨.hbm, 2679, rfl⟩
abbrev main_v1814 : Ref sig .tc := ⟨.hbm, 2680, rfl⟩
abbrev main_v1815 : Ref sig .tc := ⟨.hbm, 2681, rfl⟩
abbrev main_v1816 : Ref sig .tc := ⟨.hbm, 2682, rfl⟩
abbrev main_v1817 : Ref sig .tc := ⟨.hbm, 2683, rfl⟩
abbrev main_v1818 : Ref sig .tc := ⟨.hbm, 2684, rfl⟩
abbrev main_v1819 : Ref sig .tc := ⟨.hbm, 2685, rfl⟩
abbrev main_v1820 : Ref sig .tc := ⟨.hbm, 2686, rfl⟩
abbrev main_v1821 : Ref sig .tc := ⟨.hbm, 2687, rfl⟩
abbrev main_v1822 : Ref sig .tc := ⟨.hbm, 2688, rfl⟩
abbrev main_v1823 : Ref sig .tc := ⟨.hbm, 2689, rfl⟩
abbrev main_v1824 : Ref sig .tc := ⟨.hbm, 2690, rfl⟩
abbrev main_v1825 : Ref sig .tc := ⟨.hbm, 2691, rfl⟩
abbrev main_c_556 : Ref sig .tc := ⟨.hbm, 2692, rfl⟩
abbrev main_v1826 : Ref sig .tc := ⟨.hbm, 2693, rfl⟩
abbrev main_v1827 : Ref sig .tc := ⟨.hbm, 2694, rfl⟩
abbrev main_c_557 : Ref sig .tc := ⟨.hbm, 2695, rfl⟩
abbrev main_v1828 : Ref sig .tc := ⟨.hbm, 2696, rfl⟩
abbrev main_v1829 : Ref sig .tc := ⟨.hbm, 2697, rfl⟩
abbrev main_v1830 : Ref sig .tc := ⟨.hbm, 2698, rfl⟩
abbrev main_v1831 : Ref sig .tc := ⟨.hbm, 2699, rfl⟩
abbrev main_v1832 : Ref sig .tc := ⟨.hbm, 2700, rfl⟩
abbrev main_v1833 : Ref sig .tc := ⟨.hbm, 2701, rfl⟩
abbrev main_v1834 : Ref sig .tc := ⟨.hbm, 2702, rfl⟩
abbrev main_cst_558 : Ref sig .tc := ⟨.hbm, 2703, rfl⟩
abbrev main_v1835 : Ref sig .tc := ⟨.hbm, 2704, rfl⟩
abbrev main_v1836 : Ref sig .tc := ⟨.hbm, 2705, rfl⟩
abbrev main_cst_559 : Ref sig .tc := ⟨.hbm, 2706, rfl⟩
abbrev main_v1837 : Ref sig .tc := ⟨.hbm, 2707, rfl⟩
abbrev main_v1838 : Ref sig .tc := ⟨.hbm, 2708, rfl⟩
abbrev main_cst_560 : Ref sig .tc := ⟨.hbm, 2709, rfl⟩
abbrev main_v1839 : Ref sig .tc := ⟨.hbm, 2710, rfl⟩
abbrev main_v1840 : Ref sig .tc := ⟨.hbm, 2711, rfl⟩
abbrev main_v1841 : Ref sig .tc := ⟨.hbm, 2712, rfl⟩
abbrev main_v1842 : Ref sig .tc := ⟨.hbm, 2713, rfl⟩
abbrev main_cst_561 : Ref sig .tc := ⟨.hbm, 2714, rfl⟩
abbrev main_v1843 : Ref sig .tc := ⟨.hbm, 2715, rfl⟩
abbrev main_v1844 : Ref sig .tc := ⟨.hbm, 2716, rfl⟩
abbrev main_cst_562 : Ref sig .tc := ⟨.hbm, 2717, rfl⟩
abbrev main_v1845 : Ref sig .tc := ⟨.hbm, 2718, rfl⟩
abbrev main_v1846 : Ref sig .tc := ⟨.hbm, 2719, rfl⟩
abbrev main_cst_563 : Ref sig .tc := ⟨.hbm, 2720, rfl⟩
abbrev main_v1847 : Ref sig .tc := ⟨.hbm, 2721, rfl⟩
abbrev main_v1848 : Ref sig .tc := ⟨.hbm, 2722, rfl⟩
abbrev main_v1849 : Ref sig .tc := ⟨.hbm, 2723, rfl⟩
abbrev main_v1850 : Ref sig .tc := ⟨.hbm, 2724, rfl⟩
abbrev main_v1851 : Ref sig .tc := ⟨.hbm, 2725, rfl⟩
abbrev main_v1852 : Ref sig .tc := ⟨.hbm, 2726, rfl⟩
abbrev main_v1853 : Ref sig .tc := ⟨.hbm, 2727, rfl⟩
abbrev main_c_564 : Ref sig .tc := ⟨.hbm, 2728, rfl⟩
abbrev main_c_565 : Ref sig .tc := ⟨.hbm, 2729, rfl⟩
abbrev main_call56_v0 : Ref sig .tc := ⟨.hbm, 2730, rfl⟩
abbrev main_call56_v1 : Ref sig .tc := ⟨.hbm, 2731, rfl⟩
abbrev main_call56_v2 : Ref sig .tc := ⟨.hbm, 2732, rfl⟩
abbrev main_call56_v3 : Ref sig .tc := ⟨.hbm, 2733, rfl⟩
abbrev main_call56_v4 : Ref sig .tc := ⟨.hbm, 2734, rfl⟩
abbrev main_v1854 : Ref sig .tc := ⟨.hbm, 2735, rfl⟩
abbrev main_c_566 : Ref sig .tc := ⟨.hbm, 2736, rfl⟩
abbrev main_v1855 : Ref sig .tc := ⟨.hbm, 2737, rfl⟩
abbrev main_v1856 : Ref sig .tc := ⟨.hbm, 2738, rfl⟩
abbrev main_c_567 : Ref sig .tc := ⟨.hbm, 2739, rfl⟩
abbrev main_c_568 : Ref sig .tc := ⟨.hbm, 2740, rfl⟩
abbrev main_call57_v0 : Ref sig .tc := ⟨.hbm, 2741, rfl⟩
abbrev main_call57_v1 : Ref sig .tc := ⟨.hbm, 2742, rfl⟩
abbrev main_call57_v2 : Ref sig .tc := ⟨.hbm, 2743, rfl⟩
abbrev main_call57_v3 : Ref sig .tc := ⟨.hbm, 2744, rfl⟩
abbrev main_call57_v4 : Ref sig .tc := ⟨.hbm, 2745, rfl⟩
abbrev main_v1857 : Ref sig .tc := ⟨.hbm, 2746, rfl⟩
abbrev main_v1858 : Ref sig .tc := ⟨.hbm, 2747, rfl⟩
abbrev main_c_569 : Ref sig .tc := ⟨.hbm, 2748, rfl⟩
abbrev main_c_570 : Ref sig .tc := ⟨.hbm, 2749, rfl⟩
abbrev main_call58_v0 : Ref sig .tc := ⟨.hbm, 2750, rfl⟩
abbrev main_call58_v1 : Ref sig .tc := ⟨.hbm, 2751, rfl⟩
abbrev main_call58_v2 : Ref sig .tc := ⟨.hbm, 2752, rfl⟩
abbrev main_call58_v3 : Ref sig .tc := ⟨.hbm, 2753, rfl⟩
abbrev main_call58_v4 : Ref sig .tc := ⟨.hbm, 2754, rfl⟩
abbrev main_v1859 : Ref sig .tc := ⟨.hbm, 2755, rfl⟩
abbrev main_c_571 : Ref sig .tc := ⟨.hbm, 2756, rfl⟩
abbrev main_v1860 : Ref sig .tc := ⟨.hbm, 2757, rfl⟩
abbrev main_v1861 : Ref sig .tc := ⟨.hbm, 2758, rfl⟩
abbrev main_c_572 : Ref sig .tc := ⟨.hbm, 2759, rfl⟩
abbrev main_c_573 : Ref sig .tc := ⟨.hbm, 2760, rfl⟩
abbrev main_call59_v0 : Ref sig .tc := ⟨.hbm, 2761, rfl⟩
abbrev main_call59_v1 : Ref sig .tc := ⟨.hbm, 2762, rfl⟩
abbrev main_call59_v2 : Ref sig .tc := ⟨.hbm, 2763, rfl⟩
abbrev main_call59_v3 : Ref sig .tc := ⟨.hbm, 2764, rfl⟩
abbrev main_call59_v4 : Ref sig .tc := ⟨.hbm, 2765, rfl⟩
abbrev main_v1862 : Ref sig .tc := ⟨.hbm, 2766, rfl⟩
abbrev main_c_574 : Ref sig .tc := ⟨.hbm, 2767, rfl⟩
abbrev main_v1863 : Ref sig .tc := ⟨.hbm, 2768, rfl⟩
abbrev main_v1864 : Ref sig .tc := ⟨.hbm, 2769, rfl⟩
abbrev main_c_575 : Ref sig .tc := ⟨.hbm, 2770, rfl⟩
abbrev main_v1865 : Ref sig .tc := ⟨.hbm, 2771, rfl⟩
abbrev main_v1866 : Ref sig .tc := ⟨.hbm, 2772, rfl⟩
abbrev main_v1867 : Ref sig .tc := ⟨.hbm, 2773, rfl⟩
abbrev main_c_576 : Ref sig .tc := ⟨.hbm, 2774, rfl⟩
abbrev main_v1868 : Ref sig .tc := ⟨.hbm, 2775, rfl⟩
abbrev main_v1869 : Ref sig .tc := ⟨.hbm, 2776, rfl⟩
abbrev main_c_577 : Ref sig .tc := ⟨.hbm, 2777, rfl⟩
abbrev main_v1870 : Ref sig .tc := ⟨.hbm, 2778, rfl⟩
abbrev main_v1871 : Ref sig .tc := ⟨.hbm, 2779, rfl⟩
abbrev main_v1872 : Ref sig .tc := ⟨.hbm, 2780, rfl⟩
abbrev main_v1873 : Ref sig .tc := ⟨.hbm, 2781, rfl⟩
abbrev main_v1874 : Ref sig .tc := ⟨.hbm, 2782, rfl⟩
abbrev main_v1875 : Ref sig .tc := ⟨.hbm, 2783, rfl⟩
abbrev main_v1876 : Ref sig .tc := ⟨.hbm, 2784, rfl⟩
abbrev main_c_578 : Ref sig .tc := ⟨.hbm, 2785, rfl⟩
abbrev main_v1877 : Ref sig .tc := ⟨.hbm, 2786, rfl⟩
abbrev main_v1878 : Ref sig .tc := ⟨.hbm, 2787, rfl⟩
abbrev main_c_579 : Ref sig .tc := ⟨.hbm, 2788, rfl⟩
abbrev main_v1879 : Ref sig .tc := ⟨.hbm, 2789, rfl⟩
abbrev main_v1880 : Ref sig .tc := ⟨.hbm, 2790, rfl⟩
abbrev main_v1881 : Ref sig .tc := ⟨.hbm, 2791, rfl⟩
abbrev main_c_580 : Ref sig .tc := ⟨.hbm, 2792, rfl⟩
abbrev main_v1882 : Ref sig .tc := ⟨.hbm, 2793, rfl⟩
abbrev main_v1883 : Ref sig .tc := ⟨.hbm, 2794, rfl⟩
abbrev main_c_581 : Ref sig .tc := ⟨.hbm, 2795, rfl⟩
abbrev main_v1884 : Ref sig .tc := ⟨.hbm, 2796, rfl⟩
abbrev main_v1885 : Ref sig .tc := ⟨.hbm, 2797, rfl⟩
abbrev main_v1886 : Ref sig .tc := ⟨.hbm, 2798, rfl⟩
abbrev main_v1887 : Ref sig .tc := ⟨.hbm, 2799, rfl⟩
abbrev main_v1888 : Ref sig .tc := ⟨.hbm, 2800, rfl⟩
abbrev main_v1889 : Ref sig .tc := ⟨.hbm, 2801, rfl⟩
abbrev main_v1890 : Ref sig .tc := ⟨.hbm, 2802, rfl⟩
abbrev main_c_582 : Ref sig .tc := ⟨.hbm, 2803, rfl⟩
abbrev main_v1891 : Ref sig .tc := ⟨.hbm, 2804, rfl⟩
abbrev main_v1892 : Ref sig .tc := ⟨.hbm, 2805, rfl⟩
abbrev main_c_583 : Ref sig .tc := ⟨.hbm, 2806, rfl⟩
abbrev main_v1893 : Ref sig .tc := ⟨.hbm, 2807, rfl⟩
abbrev main_v1894 : Ref sig .tc := ⟨.hbm, 2808, rfl⟩
abbrev main_v1895 : Ref sig .tc := ⟨.hbm, 2809, rfl⟩
abbrev main_c_584 : Ref sig .tc := ⟨.hbm, 2810, rfl⟩
abbrev main_v1896 : Ref sig .tc := ⟨.hbm, 2811, rfl⟩
abbrev main_v1897 : Ref sig .tc := ⟨.hbm, 2812, rfl⟩
abbrev main_c_585 : Ref sig .tc := ⟨.hbm, 2813, rfl⟩
abbrev main_v1898 : Ref sig .tc := ⟨.hbm, 2814, rfl⟩
abbrev main_v1899 : Ref sig .tc := ⟨.hbm, 2815, rfl⟩
abbrev main_v1900 : Ref sig .tc := ⟨.hbm, 2816, rfl⟩
abbrev main_v1901 : Ref sig .tc := ⟨.hbm, 2817, rfl⟩
abbrev main_v1902 : Ref sig .tc := ⟨.hbm, 2818, rfl⟩
abbrev main_v1903 : Ref sig .tc := ⟨.hbm, 2819, rfl⟩
abbrev main_v1904 : Ref sig .tc := ⟨.hbm, 2820, rfl⟩
abbrev main_c_586 : Ref sig .tc := ⟨.hbm, 2821, rfl⟩
abbrev main_v1905 : Ref sig .tc := ⟨.hbm, 2822, rfl⟩
abbrev main_v1906 : Ref sig .tc := ⟨.hbm, 2823, rfl⟩
abbrev main_c_587 : Ref sig .tc := ⟨.hbm, 2824, rfl⟩
abbrev main_v1907 : Ref sig .tc := ⟨.hbm, 2825, rfl⟩
abbrev main_v1908 : Ref sig .tc := ⟨.hbm, 2826, rfl⟩
abbrev main_v1909 : Ref sig .tc := ⟨.hbm, 2827, rfl⟩
abbrev main_c_588 : Ref sig .tc := ⟨.hbm, 2828, rfl⟩
abbrev main_v1910 : Ref sig .tc := ⟨.hbm, 2829, rfl⟩
abbrev main_v1911 : Ref sig .tc := ⟨.hbm, 2830, rfl⟩
abbrev main_c_589 : Ref sig .tc := ⟨.hbm, 2831, rfl⟩
abbrev main_v1912 : Ref sig .tc := ⟨.hbm, 2832, rfl⟩
abbrev main_v1913 : Ref sig .tc := ⟨.hbm, 2833, rfl⟩
abbrev main_v1914 : Ref sig .tc := ⟨.hbm, 2834, rfl⟩
abbrev main_v1915 : Ref sig .tc := ⟨.hbm, 2835, rfl⟩
abbrev main_v1916 : Ref sig .tc := ⟨.hbm, 2836, rfl⟩
abbrev main_v1917 : Ref sig .tc := ⟨.hbm, 2837, rfl⟩
abbrev main_v1918 : Ref sig .tc := ⟨.hbm, 2838, rfl⟩
abbrev main_cst_590 : Ref sig .tc := ⟨.hbm, 2839, rfl⟩
abbrev main_v1919 : Ref sig .tc := ⟨.hbm, 2840, rfl⟩
abbrev main_v1920 : Ref sig .tc := ⟨.hbm, 2841, rfl⟩
abbrev main_v1921 : Ref sig .tc := ⟨.hbm, 2842, rfl⟩
abbrev main_v1922 : Ref sig .tc := ⟨.hbm, 2843, rfl⟩
abbrev main_v1923 : Ref sig .tc := ⟨.hbm, 2844, rfl⟩
abbrev main_cst_591 : Ref sig .tc := ⟨.hbm, 2845, rfl⟩
abbrev main_v1924 : Ref sig .tc := ⟨.hbm, 2846, rfl⟩
abbrev main_v1925 : Ref sig .tc := ⟨.hbm, 2847, rfl⟩
abbrev main_v1926 : Ref sig .tc := ⟨.hbm, 2848, rfl⟩
abbrev main_v1927 : Ref sig .tc := ⟨.hbm, 2849, rfl⟩
abbrev main_v1928 : Ref sig .tc := ⟨.hbm, 2850, rfl⟩
abbrev main_v1929 : Ref sig .tc := ⟨.hbm, 2851, rfl⟩
abbrev main_v1930 : Ref sig .tc := ⟨.hbm, 2852, rfl⟩
abbrev main_v1931 : Ref sig .tc := ⟨.hbm, 2853, rfl⟩
abbrev main_cst_592 : Ref sig .tc := ⟨.hbm, 2854, rfl⟩
abbrev main_v1932 : Ref sig .tc := ⟨.hbm, 2855, rfl⟩
abbrev main_v1933 : Ref sig .tc := ⟨.hbm, 2856, rfl⟩
abbrev main_v1934 : Ref sig .tc := ⟨.hbm, 2857, rfl⟩
abbrev main_v1935 : Ref sig .tc := ⟨.hbm, 2858, rfl⟩
abbrev main_v1936 : Ref sig .tc := ⟨.hbm, 2859, rfl⟩
abbrev main_v1937 : Ref sig .tc := ⟨.hbm, 2860, rfl⟩
abbrev main_cst_593 : Ref sig .tc := ⟨.hbm, 2861, rfl⟩
abbrev main_v1938 : Ref sig .tc := ⟨.hbm, 2862, rfl⟩
abbrev main_v1939 : Ref sig .tc := ⟨.hbm, 2863, rfl⟩
abbrev main_v1940 : Ref sig .tc := ⟨.hbm, 2864, rfl⟩
abbrev main_v1941 : Ref sig .tc := ⟨.hbm, 2865, rfl⟩
abbrev main_v1942 : Ref sig .tc := ⟨.hbm, 2866, rfl⟩
abbrev main_v1943 : Ref sig .tc := ⟨.hbm, 2867, rfl⟩
abbrev main_v1944 : Ref sig .tc := ⟨.hbm, 2868, rfl⟩
abbrev main_v1945 : Ref sig .tc := ⟨.hbm, 2869, rfl⟩
abbrev main_v1946 : Ref sig .tc := ⟨.hbm, 2870, rfl⟩
abbrev main_v1947 : Ref sig .tc := ⟨.hbm, 2871, rfl⟩
abbrev main_v1948 : Ref sig .tc := ⟨.hbm, 2872, rfl⟩
abbrev main_v1949 : Ref sig .tc := ⟨.hbm, 2873, rfl⟩
abbrev main_v1950 : Ref sig .tc := ⟨.hbm, 2874, rfl⟩
abbrev main_v1951 : Ref sig .tc := ⟨.hbm, 2875, rfl⟩
abbrev main_v1952 : Ref sig .tc := ⟨.hbm, 2876, rfl⟩
abbrev main_v1953 : Ref sig .tc := ⟨.hbm, 2877, rfl⟩
abbrev main_v1954 : Ref sig .tc := ⟨.hbm, 2878, rfl⟩
abbrev main_v1955 : Ref sig .tc := ⟨.hbm, 2879, rfl⟩
abbrev main_c_594 : Ref sig .tc := ⟨.hbm, 2880, rfl⟩
abbrev main_v1956 : Ref sig .tc := ⟨.hbm, 2881, rfl⟩
abbrev main_v1957 : Ref sig .tc := ⟨.hbm, 2882, rfl⟩
abbrev main_c_595 : Ref sig .tc := ⟨.hbm, 2883, rfl⟩
abbrev main_v1958 : Ref sig .tc := ⟨.hbm, 2884, rfl⟩
abbrev main_v1959 : Ref sig .tc := ⟨.hbm, 2885, rfl⟩
abbrev main_v1960 : Ref sig .tc := ⟨.hbm, 2886, rfl⟩
abbrev main_v1961 : Ref sig .tc := ⟨.hbm, 2887, rfl⟩
abbrev main_v1962 : Ref sig .tc := ⟨.hbm, 2888, rfl⟩
abbrev main_v1963 : Ref sig .tc := ⟨.hbm, 2889, rfl⟩
abbrev main_v1964 : Ref sig .tc := ⟨.hbm, 2890, rfl⟩
abbrev main_cst_596 : Ref sig .tc := ⟨.hbm, 2891, rfl⟩
abbrev main_v1965 : Ref sig .tc := ⟨.hbm, 2892, rfl⟩
abbrev main_v1966 : Ref sig .tc := ⟨.hbm, 2893, rfl⟩
abbrev main_cst_597 : Ref sig .tc := ⟨.hbm, 2894, rfl⟩
abbrev main_v1967 : Ref sig .tc := ⟨.hbm, 2895, rfl⟩
abbrev main_v1968 : Ref sig .tc := ⟨.hbm, 2896, rfl⟩
abbrev main_cst_598 : Ref sig .tc := ⟨.hbm, 2897, rfl⟩
abbrev main_v1969 : Ref sig .tc := ⟨.hbm, 2898, rfl⟩
abbrev main_v1970 : Ref sig .tc := ⟨.hbm, 2899, rfl⟩
abbrev main_v1971 : Ref sig .tc := ⟨.hbm, 2900, rfl⟩
abbrev main_v1972 : Ref sig .tc := ⟨.hbm, 2901, rfl⟩
abbrev main_cst_599 : Ref sig .tc := ⟨.hbm, 2902, rfl⟩
abbrev main_v1973 : Ref sig .tc := ⟨.hbm, 2903, rfl⟩
abbrev main_v1974 : Ref sig .tc := ⟨.hbm, 2904, rfl⟩
abbrev main_cst_600 : Ref sig .tc := ⟨.hbm, 2905, rfl⟩
abbrev main_v1975 : Ref sig .tc := ⟨.hbm, 2906, rfl⟩
abbrev main_v1976 : Ref sig .tc := ⟨.hbm, 2907, rfl⟩
abbrev main_cst_601 : Ref sig .tc := ⟨.hbm, 2908, rfl⟩
abbrev main_v1977 : Ref sig .tc := ⟨.hbm, 2909, rfl⟩
abbrev main_v1978 : Ref sig .tc := ⟨.hbm, 2910, rfl⟩
abbrev main_v1979 : Ref sig .tc := ⟨.hbm, 2911, rfl⟩
abbrev main_v1980 : Ref sig .tc := ⟨.hbm, 2912, rfl⟩
abbrev main_v1981 : Ref sig .tc := ⟨.hbm, 2913, rfl⟩
abbrev main_v1982 : Ref sig .tc := ⟨.hbm, 2914, rfl⟩
abbrev main_v1983 : Ref sig .tc := ⟨.hbm, 2915, rfl⟩
abbrev main_c_602 : Ref sig .tc := ⟨.hbm, 2916, rfl⟩
abbrev main_c_603 : Ref sig .tc := ⟨.hbm, 2917, rfl⟩
abbrev main_call60_v0 : Ref sig .tc := ⟨.hbm, 2918, rfl⟩
abbrev main_call60_v1 : Ref sig .tc := ⟨.hbm, 2919, rfl⟩
abbrev main_call60_v2 : Ref sig .tc := ⟨.hbm, 2920, rfl⟩
abbrev main_call60_v3 : Ref sig .tc := ⟨.hbm, 2921, rfl⟩
abbrev main_call60_v4 : Ref sig .tc := ⟨.hbm, 2922, rfl⟩
abbrev main_v1984 : Ref sig .tc := ⟨.hbm, 2923, rfl⟩
abbrev main_c_604 : Ref sig .tc := ⟨.hbm, 2924, rfl⟩
abbrev main_v1985 : Ref sig .tc := ⟨.hbm, 2925, rfl⟩
abbrev main_v1986 : Ref sig .tc := ⟨.hbm, 2926, rfl⟩
abbrev main_c_605 : Ref sig .tc := ⟨.hbm, 2927, rfl⟩
abbrev main_c_606 : Ref sig .tc := ⟨.hbm, 2928, rfl⟩
abbrev main_call61_v0 : Ref sig .tc := ⟨.hbm, 2929, rfl⟩
abbrev main_call61_v1 : Ref sig .tc := ⟨.hbm, 2930, rfl⟩
abbrev main_call61_v2 : Ref sig .tc := ⟨.hbm, 2931, rfl⟩
abbrev main_call61_v3 : Ref sig .tc := ⟨.hbm, 2932, rfl⟩
abbrev main_call61_v4 : Ref sig .tc := ⟨.hbm, 2933, rfl⟩
abbrev main_v1987 : Ref sig .tc := ⟨.hbm, 2934, rfl⟩
abbrev main_v1988 : Ref sig .tc := ⟨.hbm, 2935, rfl⟩
abbrev main_c_607 : Ref sig .tc := ⟨.hbm, 2936, rfl⟩
abbrev main_c_608 : Ref sig .tc := ⟨.hbm, 2937, rfl⟩
abbrev main_call62_v0 : Ref sig .tc := ⟨.hbm, 2938, rfl⟩
abbrev main_call62_v1 : Ref sig .tc := ⟨.hbm, 2939, rfl⟩
abbrev main_call62_v2 : Ref sig .tc := ⟨.hbm, 2940, rfl⟩
abbrev main_call62_v3 : Ref sig .tc := ⟨.hbm, 2941, rfl⟩
abbrev main_call62_v4 : Ref sig .tc := ⟨.hbm, 2942, rfl⟩
abbrev main_v1989 : Ref sig .tc := ⟨.hbm, 2943, rfl⟩
abbrev main_c_609 : Ref sig .tc := ⟨.hbm, 2944, rfl⟩
abbrev main_v1990 : Ref sig .tc := ⟨.hbm, 2945, rfl⟩
abbrev main_v1991 : Ref sig .tc := ⟨.hbm, 2946, rfl⟩
abbrev main_c_610 : Ref sig .tc := ⟨.hbm, 2947, rfl⟩
abbrev main_c_611 : Ref sig .tc := ⟨.hbm, 2948, rfl⟩
abbrev main_call63_v0 : Ref sig .tc := ⟨.hbm, 2949, rfl⟩
abbrev main_call63_v1 : Ref sig .tc := ⟨.hbm, 2950, rfl⟩
abbrev main_call63_v2 : Ref sig .tc := ⟨.hbm, 2951, rfl⟩
abbrev main_call63_v3 : Ref sig .tc := ⟨.hbm, 2952, rfl⟩
abbrev main_call63_v4 : Ref sig .tc := ⟨.hbm, 2953, rfl⟩
abbrev main_v1992 : Ref sig .tc := ⟨.hbm, 2954, rfl⟩
abbrev main_c_612 : Ref sig .tc := ⟨.hbm, 2955, rfl⟩
abbrev main_v1993 : Ref sig .tc := ⟨.hbm, 2956, rfl⟩
abbrev main_v1994 : Ref sig .tc := ⟨.hbm, 2957, rfl⟩
abbrev main_c_613 : Ref sig .tc := ⟨.hbm, 2958, rfl⟩
abbrev main_v1995 : Ref sig .tc := ⟨.hbm, 2959, rfl⟩
abbrev main_v1996 : Ref sig .tc := ⟨.hbm, 2960, rfl⟩
abbrev main_v1997 : Ref sig .tc := ⟨.hbm, 2961, rfl⟩
abbrev main_c_614 : Ref sig .tc := ⟨.hbm, 2962, rfl⟩
abbrev main_v1998 : Ref sig .tc := ⟨.hbm, 2963, rfl⟩
abbrev main_v1999 : Ref sig .tc := ⟨.hbm, 2964, rfl⟩
abbrev main_c_615 : Ref sig .tc := ⟨.hbm, 2965, rfl⟩
abbrev main_v2000 : Ref sig .tc := ⟨.hbm, 2966, rfl⟩
abbrev main_v2001 : Ref sig .tc := ⟨.hbm, 2967, rfl⟩
abbrev main_v2002 : Ref sig .tc := ⟨.hbm, 2968, rfl⟩
abbrev main_v2003 : Ref sig .tc := ⟨.hbm, 2969, rfl⟩
abbrev main_v2004 : Ref sig .tc := ⟨.hbm, 2970, rfl⟩
abbrev main_v2005 : Ref sig .tc := ⟨.hbm, 2971, rfl⟩
abbrev main_v2006 : Ref sig .tc := ⟨.hbm, 2972, rfl⟩
abbrev main_c_616 : Ref sig .tc := ⟨.hbm, 2973, rfl⟩
abbrev main_v2007 : Ref sig .tc := ⟨.hbm, 2974, rfl⟩
abbrev main_v2008 : Ref sig .tc := ⟨.hbm, 2975, rfl⟩
abbrev main_c_617 : Ref sig .tc := ⟨.hbm, 2976, rfl⟩
abbrev main_v2009 : Ref sig .tc := ⟨.hbm, 2977, rfl⟩
abbrev main_v2010 : Ref sig .tc := ⟨.hbm, 2978, rfl⟩
abbrev main_v2011 : Ref sig .tc := ⟨.hbm, 2979, rfl⟩
abbrev main_c_618 : Ref sig .tc := ⟨.hbm, 2980, rfl⟩
abbrev main_v2012 : Ref sig .tc := ⟨.hbm, 2981, rfl⟩
abbrev main_v2013 : Ref sig .tc := ⟨.hbm, 2982, rfl⟩
abbrev main_c_619 : Ref sig .tc := ⟨.hbm, 2983, rfl⟩
abbrev main_v2014 : Ref sig .tc := ⟨.hbm, 2984, rfl⟩
abbrev main_v2015 : Ref sig .tc := ⟨.hbm, 2985, rfl⟩
abbrev main_v2016 : Ref sig .tc := ⟨.hbm, 2986, rfl⟩
abbrev main_v2017 : Ref sig .tc := ⟨.hbm, 2987, rfl⟩
abbrev main_v2018 : Ref sig .tc := ⟨.hbm, 2988, rfl⟩
abbrev main_v2019 : Ref sig .tc := ⟨.hbm, 2989, rfl⟩
abbrev main_v2020 : Ref sig .tc := ⟨.hbm, 2990, rfl⟩
abbrev main_c_620 : Ref sig .tc := ⟨.hbm, 2991, rfl⟩
abbrev main_v2021 : Ref sig .tc := ⟨.hbm, 2992, rfl⟩
abbrev main_v2022 : Ref sig .tc := ⟨.hbm, 2993, rfl⟩
abbrev main_c_621 : Ref sig .tc := ⟨.hbm, 2994, rfl⟩
abbrev main_v2023 : Ref sig .tc := ⟨.hbm, 2995, rfl⟩
abbrev main_v2024 : Ref sig .tc := ⟨.hbm, 2996, rfl⟩
abbrev main_v2025 : Ref sig .tc := ⟨.hbm, 2997, rfl⟩
abbrev main_c_622 : Ref sig .tc := ⟨.hbm, 2998, rfl⟩
abbrev main_v2026 : Ref sig .tc := ⟨.hbm, 2999, rfl⟩
abbrev main_v2027 : Ref sig .tc := ⟨.hbm, 3000, rfl⟩
abbrev main_c_623 : Ref sig .tc := ⟨.hbm, 3001, rfl⟩
abbrev main_v2028 : Ref sig .tc := ⟨.hbm, 3002, rfl⟩
abbrev main_v2029 : Ref sig .tc := ⟨.hbm, 3003, rfl⟩
abbrev main_v2030 : Ref sig .tc := ⟨.hbm, 3004, rfl⟩
abbrev main_v2031 : Ref sig .tc := ⟨.hbm, 3005, rfl⟩
abbrev main_v2032 : Ref sig .tc := ⟨.hbm, 3006, rfl⟩
abbrev main_v2033 : Ref sig .tc := ⟨.hbm, 3007, rfl⟩
abbrev main_v2034 : Ref sig .tc := ⟨.hbm, 3008, rfl⟩
abbrev main_c_624 : Ref sig .tc := ⟨.hbm, 3009, rfl⟩
abbrev main_v2035 : Ref sig .tc := ⟨.hbm, 3010, rfl⟩
abbrev main_v2036 : Ref sig .tc := ⟨.hbm, 3011, rfl⟩
abbrev main_c_625 : Ref sig .tc := ⟨.hbm, 3012, rfl⟩
abbrev main_v2037 : Ref sig .tc := ⟨.hbm, 3013, rfl⟩
abbrev main_v2038 : Ref sig .tc := ⟨.hbm, 3014, rfl⟩
abbrev main_v2039 : Ref sig .tc := ⟨.hbm, 3015, rfl⟩
abbrev main_c_626 : Ref sig .tc := ⟨.hbm, 3016, rfl⟩
abbrev main_v2040 : Ref sig .tc := ⟨.hbm, 3017, rfl⟩
abbrev main_v2041 : Ref sig .tc := ⟨.hbm, 3018, rfl⟩
abbrev main_c_627 : Ref sig .tc := ⟨.hbm, 3019, rfl⟩
abbrev main_v2042 : Ref sig .tc := ⟨.hbm, 3020, rfl⟩
abbrev main_v2043 : Ref sig .tc := ⟨.hbm, 3021, rfl⟩
abbrev main_v2044 : Ref sig .tc := ⟨.hbm, 3022, rfl⟩
abbrev main_v2045 : Ref sig .tc := ⟨.hbm, 3023, rfl⟩
abbrev main_v2046 : Ref sig .tc := ⟨.hbm, 3024, rfl⟩
abbrev main_v2047 : Ref sig .tc := ⟨.hbm, 3025, rfl⟩
abbrev main_v2048 : Ref sig .tc := ⟨.hbm, 3026, rfl⟩
abbrev main_cst_628 : Ref sig .tc := ⟨.hbm, 3027, rfl⟩
abbrev main_v2049 : Ref sig .tc := ⟨.hbm, 3028, rfl⟩
abbrev main_v2050 : Ref sig .tc := ⟨.hbm, 3029, rfl⟩
abbrev main_v2051 : Ref sig .tc := ⟨.hbm, 3030, rfl⟩
abbrev main_v2052 : Ref sig .tc := ⟨.hbm, 3031, rfl⟩
abbrev main_v2053 : Ref sig .tc := ⟨.hbm, 3032, rfl⟩
abbrev main_cst_629 : Ref sig .tc := ⟨.hbm, 3033, rfl⟩
abbrev main_v2054 : Ref sig .tc := ⟨.hbm, 3034, rfl⟩
abbrev main_v2055 : Ref sig .tc := ⟨.hbm, 3035, rfl⟩
abbrev main_v2056 : Ref sig .tc := ⟨.hbm, 3036, rfl⟩
abbrev main_v2057 : Ref sig .tc := ⟨.hbm, 3037, rfl⟩
abbrev main_v2058 : Ref sig .tc := ⟨.hbm, 3038, rfl⟩
abbrev main_v2059 : Ref sig .tc := ⟨.hbm, 3039, rfl⟩
abbrev main_v2060 : Ref sig .tc := ⟨.hbm, 3040, rfl⟩
abbrev main_v2061 : Ref sig .tc := ⟨.hbm, 3041, rfl⟩
abbrev main_cst_630 : Ref sig .tc := ⟨.hbm, 3042, rfl⟩
abbrev main_v2062 : Ref sig .tc := ⟨.hbm, 3043, rfl⟩
abbrev main_v2063 : Ref sig .tc := ⟨.hbm, 3044, rfl⟩
abbrev main_v2064 : Ref sig .tc := ⟨.hbm, 3045, rfl⟩
abbrev main_v2065 : Ref sig .tc := ⟨.hbm, 3046, rfl⟩
abbrev main_v2066 : Ref sig .tc := ⟨.hbm, 3047, rfl⟩
abbrev main_v2067 : Ref sig .tc := ⟨.hbm, 3048, rfl⟩
abbrev main_cst_631 : Ref sig .tc := ⟨.hbm, 3049, rfl⟩
abbrev main_v2068 : Ref sig .tc := ⟨.hbm, 3050, rfl⟩
abbrev main_v2069 : Ref sig .tc := ⟨.hbm, 3051, rfl⟩
abbrev main_v2070 : Ref sig .tc := ⟨.hbm, 3052, rfl⟩
abbrev main_v2071 : Ref sig .tc := ⟨.hbm, 3053, rfl⟩
abbrev main_v2072 : Ref sig .tc := ⟨.hbm, 3054, rfl⟩
abbrev main_v2073 : Ref sig .tc := ⟨.hbm, 3055, rfl⟩
abbrev main_v2074 : Ref sig .tc := ⟨.hbm, 3056, rfl⟩
abbrev main_v2075 : Ref sig .tc := ⟨.hbm, 3057, rfl⟩
abbrev main_v2076 : Ref sig .tc := ⟨.hbm, 3058, rfl⟩
abbrev main_v2077 : Ref sig .tc := ⟨.hbm, 3059, rfl⟩
abbrev main_v2078 : Ref sig .tc := ⟨.hbm, 3060, rfl⟩
abbrev main_v2079 : Ref sig .tc := ⟨.hbm, 3061, rfl⟩
abbrev main_v2080 : Ref sig .tc := ⟨.hbm, 3062, rfl⟩
abbrev main_v2081 : Ref sig .tc := ⟨.hbm, 3063, rfl⟩
abbrev main_v2082 : Ref sig .tc := ⟨.hbm, 3064, rfl⟩
abbrev main_v2083 : Ref sig .tc := ⟨.hbm, 3065, rfl⟩
abbrev main_v2084 : Ref sig .tc := ⟨.hbm, 3066, rfl⟩
abbrev main_v2085 : Ref sig .tc := ⟨.hbm, 3067, rfl⟩
abbrev main_c_632 : Ref sig .tc := ⟨.hbm, 3068, rfl⟩
abbrev main_v2086 : Ref sig .tc := ⟨.hbm, 3069, rfl⟩
abbrev main_v2087 : Ref sig .tc := ⟨.hbm, 3070, rfl⟩
abbrev main_c_633 : Ref sig .tc := ⟨.hbm, 3071, rfl⟩
abbrev main_v2088 : Ref sig .tc := ⟨.hbm, 3072, rfl⟩
abbrev main_v2089 : Ref sig .tc := ⟨.hbm, 3073, rfl⟩
abbrev main_v2090 : Ref sig .tc := ⟨.hbm, 3074, rfl⟩
abbrev main_v2091 : Ref sig .tc := ⟨.hbm, 3075, rfl⟩
abbrev main_v2092 : Ref sig .tc := ⟨.hbm, 3076, rfl⟩
abbrev main_v2093 : Ref sig .tc := ⟨.hbm, 3077, rfl⟩
abbrev main_v2094 : Ref sig .tc := ⟨.hbm, 3078, rfl⟩
abbrev main_cst_634 : Ref sig .tc := ⟨.hbm, 3079, rfl⟩
abbrev main_v2095 : Ref sig .tc := ⟨.hbm, 3080, rfl⟩
abbrev main_v2096 : Ref sig .tc := ⟨.hbm, 3081, rfl⟩
abbrev main_cst_635 : Ref sig .tc := ⟨.hbm, 3082, rfl⟩
abbrev main_v2097 : Ref sig .tc := ⟨.hbm, 3083, rfl⟩
abbrev main_v2098 : Ref sig .tc := ⟨.hbm, 3084, rfl⟩
abbrev main_cst_636 : Ref sig .tc := ⟨.hbm, 3085, rfl⟩
abbrev main_v2099 : Ref sig .tc := ⟨.hbm, 3086, rfl⟩
abbrev main_v2100 : Ref sig .tc := ⟨.hbm, 3087, rfl⟩
abbrev main_v2101 : Ref sig .tc := ⟨.hbm, 3088, rfl⟩
abbrev main_v2102 : Ref sig .tc := ⟨.hbm, 3089, rfl⟩
abbrev main_cst_637 : Ref sig .tc := ⟨.hbm, 3090, rfl⟩
abbrev main_v2103 : Ref sig .tc := ⟨.hbm, 3091, rfl⟩
abbrev main_v2104 : Ref sig .tc := ⟨.hbm, 3092, rfl⟩
abbrev main_cst_638 : Ref sig .tc := ⟨.hbm, 3093, rfl⟩
abbrev main_v2105 : Ref sig .tc := ⟨.hbm, 3094, rfl⟩
abbrev main_v2106 : Ref sig .tc := ⟨.hbm, 3095, rfl⟩
abbrev main_cst_639 : Ref sig .tc := ⟨.hbm, 3096, rfl⟩
abbrev main_v2107 : Ref sig .tc := ⟨.hbm, 3097, rfl⟩
abbrev main_v2108 : Ref sig .tc := ⟨.hbm, 3098, rfl⟩
abbrev main_v2109 : Ref sig .tc := ⟨.hbm, 3099, rfl⟩
abbrev main_v2110 : Ref sig .tc := ⟨.hbm, 3100, rfl⟩
abbrev main_v2111 : Ref sig .tc := ⟨.hbm, 3101, rfl⟩
abbrev main_v2112 : Ref sig .tc := ⟨.hbm, 3102, rfl⟩
abbrev main_v2113 : Ref sig .tc := ⟨.hbm, 3103, rfl⟩
abbrev main_c_640 : Ref sig .tc := ⟨.hbm, 3104, rfl⟩
abbrev main_c_641 : Ref sig .tc := ⟨.hbm, 3105, rfl⟩
abbrev main_call64_v0 : Ref sig .tc := ⟨.hbm, 3106, rfl⟩
abbrev main_call64_v1 : Ref sig .tc := ⟨.hbm, 3107, rfl⟩
abbrev main_call64_v2 : Ref sig .tc := ⟨.hbm, 3108, rfl⟩
abbrev main_call64_v3 : Ref sig .tc := ⟨.hbm, 3109, rfl⟩
abbrev main_call64_v4 : Ref sig .tc := ⟨.hbm, 3110, rfl⟩
abbrev main_v2114 : Ref sig .tc := ⟨.hbm, 3111, rfl⟩
abbrev main_c_642 : Ref sig .tc := ⟨.hbm, 3112, rfl⟩
abbrev main_v2115 : Ref sig .tc := ⟨.hbm, 3113, rfl⟩
abbrev main_v2116 : Ref sig .tc := ⟨.hbm, 3114, rfl⟩
abbrev main_c_643 : Ref sig .tc := ⟨.hbm, 3115, rfl⟩
abbrev main_c_644 : Ref sig .tc := ⟨.hbm, 3116, rfl⟩
abbrev main_call65_v0 : Ref sig .tc := ⟨.hbm, 3117, rfl⟩
abbrev main_call65_v1 : Ref sig .tc := ⟨.hbm, 3118, rfl⟩
abbrev main_call65_v2 : Ref sig .tc := ⟨.hbm, 3119, rfl⟩
abbrev main_call65_v3 : Ref sig .tc := ⟨.hbm, 3120, rfl⟩
abbrev main_call65_v4 : Ref sig .tc := ⟨.hbm, 3121, rfl⟩
abbrev main_v2117 : Ref sig .tc := ⟨.hbm, 3122, rfl⟩
abbrev main_v2118 : Ref sig .tc := ⟨.hbm, 3123, rfl⟩
abbrev main_c_645 : Ref sig .tc := ⟨.hbm, 3124, rfl⟩
abbrev main_c_646 : Ref sig .tc := ⟨.hbm, 3125, rfl⟩
abbrev main_call66_v0 : Ref sig .tc := ⟨.hbm, 3126, rfl⟩
abbrev main_call66_v1 : Ref sig .tc := ⟨.hbm, 3127, rfl⟩
abbrev main_call66_v2 : Ref sig .tc := ⟨.hbm, 3128, rfl⟩
abbrev main_call66_v3 : Ref sig .tc := ⟨.hbm, 3129, rfl⟩
abbrev main_call66_v4 : Ref sig .tc := ⟨.hbm, 3130, rfl⟩
abbrev main_v2119 : Ref sig .tc := ⟨.hbm, 3131, rfl⟩
abbrev main_c_647 : Ref sig .tc := ⟨.hbm, 3132, rfl⟩
abbrev main_v2120 : Ref sig .tc := ⟨.hbm, 3133, rfl⟩
abbrev main_v2121 : Ref sig .tc := ⟨.hbm, 3134, rfl⟩
abbrev main_c_648 : Ref sig .tc := ⟨.hbm, 3135, rfl⟩
abbrev main_c_649 : Ref sig .tc := ⟨.hbm, 3136, rfl⟩
abbrev main_call67_v0 : Ref sig .tc := ⟨.hbm, 3137, rfl⟩
abbrev main_call67_v1 : Ref sig .tc := ⟨.hbm, 3138, rfl⟩
abbrev main_call67_v2 : Ref sig .tc := ⟨.hbm, 3139, rfl⟩
abbrev main_call67_v3 : Ref sig .tc := ⟨.hbm, 3140, rfl⟩
abbrev main_call67_v4 : Ref sig .tc := ⟨.hbm, 3141, rfl⟩
abbrev main_v2122 : Ref sig .tc := ⟨.hbm, 3142, rfl⟩
abbrev main_c_650 : Ref sig .tc := ⟨.hbm, 3143, rfl⟩
abbrev main_v2123 : Ref sig .tc := ⟨.hbm, 3144, rfl⟩
abbrev main_v2124 : Ref sig .tc := ⟨.hbm, 3145, rfl⟩
abbrev main_c_651 : Ref sig .tc := ⟨.hbm, 3146, rfl⟩
abbrev main_v2125 : Ref sig .tc := ⟨.hbm, 3147, rfl⟩
abbrev main_v2126 : Ref sig .tc := ⟨.hbm, 3148, rfl⟩
abbrev main_v2127 : Ref sig .tc := ⟨.hbm, 3149, rfl⟩
abbrev main_c_652 : Ref sig .tc := ⟨.hbm, 3150, rfl⟩
abbrev main_v2128 : Ref sig .tc := ⟨.hbm, 3151, rfl⟩
abbrev main_v2129 : Ref sig .tc := ⟨.hbm, 3152, rfl⟩
abbrev main_c_653 : Ref sig .tc := ⟨.hbm, 3153, rfl⟩
abbrev main_v2130 : Ref sig .tc := ⟨.hbm, 3154, rfl⟩
abbrev main_v2131 : Ref sig .tc := ⟨.hbm, 3155, rfl⟩
abbrev main_v2132 : Ref sig .tc := ⟨.hbm, 3156, rfl⟩
abbrev main_v2133 : Ref sig .tc := ⟨.hbm, 3157, rfl⟩
abbrev main_v2134 : Ref sig .tc := ⟨.hbm, 3158, rfl⟩
abbrev main_v2135 : Ref sig .tc := ⟨.hbm, 3159, rfl⟩
abbrev main_v2136 : Ref sig .tc := ⟨.hbm, 3160, rfl⟩
abbrev main_c_654 : Ref sig .tc := ⟨.hbm, 3161, rfl⟩
abbrev main_v2137 : Ref sig .tc := ⟨.hbm, 3162, rfl⟩
abbrev main_v2138 : Ref sig .tc := ⟨.hbm, 3163, rfl⟩
abbrev main_c_655 : Ref sig .tc := ⟨.hbm, 3164, rfl⟩
abbrev main_v2139 : Ref sig .tc := ⟨.hbm, 3165, rfl⟩
abbrev main_v2140 : Ref sig .tc := ⟨.hbm, 3166, rfl⟩
abbrev main_v2141 : Ref sig .tc := ⟨.hbm, 3167, rfl⟩
abbrev main_c_656 : Ref sig .tc := ⟨.hbm, 3168, rfl⟩
abbrev main_v2142 : Ref sig .tc := ⟨.hbm, 3169, rfl⟩
abbrev main_v2143 : Ref sig .tc := ⟨.hbm, 3170, rfl⟩
abbrev main_c_657 : Ref sig .tc := ⟨.hbm, 3171, rfl⟩
abbrev main_v2144 : Ref sig .tc := ⟨.hbm, 3172, rfl⟩
abbrev main_v2145 : Ref sig .tc := ⟨.hbm, 3173, rfl⟩
abbrev main_v2146 : Ref sig .tc := ⟨.hbm, 3174, rfl⟩
abbrev main_v2147 : Ref sig .tc := ⟨.hbm, 3175, rfl⟩
abbrev main_v2148 : Ref sig .tc := ⟨.hbm, 3176, rfl⟩
abbrev main_v2149 : Ref sig .tc := ⟨.hbm, 3177, rfl⟩
abbrev main_v2150 : Ref sig .tc := ⟨.hbm, 3178, rfl⟩
abbrev main_c_658 : Ref sig .tc := ⟨.hbm, 3179, rfl⟩
abbrev main_v2151 : Ref sig .tc := ⟨.hbm, 3180, rfl⟩
abbrev main_v2152 : Ref sig .tc := ⟨.hbm, 3181, rfl⟩
abbrev main_c_659 : Ref sig .tc := ⟨.hbm, 3182, rfl⟩
abbrev main_v2153 : Ref sig .tc := ⟨.hbm, 3183, rfl⟩
abbrev main_v2154 : Ref sig .tc := ⟨.hbm, 3184, rfl⟩
abbrev main_v2155 : Ref sig .tc := ⟨.hbm, 3185, rfl⟩
abbrev main_c_660 : Ref sig .tc := ⟨.hbm, 3186, rfl⟩
abbrev main_v2156 : Ref sig .tc := ⟨.hbm, 3187, rfl⟩
abbrev main_v2157 : Ref sig .tc := ⟨.hbm, 3188, rfl⟩
abbrev main_c_661 : Ref sig .tc := ⟨.hbm, 3189, rfl⟩
abbrev main_v2158 : Ref sig .tc := ⟨.hbm, 3190, rfl⟩
abbrev main_v2159 : Ref sig .tc := ⟨.hbm, 3191, rfl⟩
abbrev main_v2160 : Ref sig .tc := ⟨.hbm, 3192, rfl⟩
abbrev main_v2161 : Ref sig .tc := ⟨.hbm, 3193, rfl⟩
abbrev main_v2162 : Ref sig .tc := ⟨.hbm, 3194, rfl⟩
abbrev main_v2163 : Ref sig .tc := ⟨.hbm, 3195, rfl⟩
abbrev main_v2164 : Ref sig .tc := ⟨.hbm, 3196, rfl⟩
abbrev main_c_662 : Ref sig .tc := ⟨.hbm, 3197, rfl⟩
abbrev main_v2165 : Ref sig .tc := ⟨.hbm, 3198, rfl⟩
abbrev main_v2166 : Ref sig .tc := ⟨.hbm, 3199, rfl⟩
abbrev main_c_663 : Ref sig .tc := ⟨.hbm, 3200, rfl⟩
abbrev main_v2167 : Ref sig .tc := ⟨.hbm, 3201, rfl⟩
abbrev main_v2168 : Ref sig .tc := ⟨.hbm, 3202, rfl⟩
abbrev main_v2169 : Ref sig .tc := ⟨.hbm, 3203, rfl⟩
abbrev main_c_664 : Ref sig .tc := ⟨.hbm, 3204, rfl⟩
abbrev main_v2170 : Ref sig .tc := ⟨.hbm, 3205, rfl⟩
abbrev main_v2171 : Ref sig .tc := ⟨.hbm, 3206, rfl⟩
abbrev main_c_665 : Ref sig .tc := ⟨.hbm, 3207, rfl⟩
abbrev main_v2172 : Ref sig .tc := ⟨.hbm, 3208, rfl⟩
abbrev main_v2173 : Ref sig .tc := ⟨.hbm, 3209, rfl⟩
abbrev main_v2174 : Ref sig .tc := ⟨.hbm, 3210, rfl⟩
abbrev main_v2175 : Ref sig .tc := ⟨.hbm, 3211, rfl⟩
abbrev main_v2176 : Ref sig .tc := ⟨.hbm, 3212, rfl⟩
abbrev main_v2177 : Ref sig .tc := ⟨.hbm, 3213, rfl⟩
abbrev main_v2178 : Ref sig .tc := ⟨.hbm, 3214, rfl⟩
abbrev main_cst_666 : Ref sig .tc := ⟨.hbm, 3215, rfl⟩
abbrev main_v2179 : Ref sig .tc := ⟨.hbm, 3216, rfl⟩
abbrev main_v2180 : Ref sig .tc := ⟨.hbm, 3217, rfl⟩
abbrev main_v2181 : Ref sig .tc := ⟨.hbm, 3218, rfl⟩
abbrev main_v2182 : Ref sig .tc := ⟨.hbm, 3219, rfl⟩
abbrev main_v2183 : Ref sig .tc := ⟨.hbm, 3220, rfl⟩
abbrev main_cst_667 : Ref sig .tc := ⟨.hbm, 3221, rfl⟩
abbrev main_v2184 : Ref sig .tc := ⟨.hbm, 3222, rfl⟩
abbrev main_v2185 : Ref sig .tc := ⟨.hbm, 3223, rfl⟩
abbrev main_v2186 : Ref sig .tc := ⟨.hbm, 3224, rfl⟩
abbrev main_v2187 : Ref sig .tc := ⟨.hbm, 3225, rfl⟩
abbrev main_v2188 : Ref sig .tc := ⟨.hbm, 3226, rfl⟩
abbrev main_v2189 : Ref sig .tc := ⟨.hbm, 3227, rfl⟩
abbrev main_v2190 : Ref sig .tc := ⟨.hbm, 3228, rfl⟩
abbrev main_v2191 : Ref sig .tc := ⟨.hbm, 3229, rfl⟩
abbrev main_cst_668 : Ref sig .tc := ⟨.hbm, 3230, rfl⟩
abbrev main_v2192 : Ref sig .tc := ⟨.hbm, 3231, rfl⟩
abbrev main_v2193 : Ref sig .tc := ⟨.hbm, 3232, rfl⟩
abbrev main_v2194 : Ref sig .tc := ⟨.hbm, 3233, rfl⟩
abbrev main_v2195 : Ref sig .tc := ⟨.hbm, 3234, rfl⟩
abbrev main_v2196 : Ref sig .tc := ⟨.hbm, 3235, rfl⟩
abbrev main_v2197 : Ref sig .tc := ⟨.hbm, 3236, rfl⟩
abbrev main_cst_669 : Ref sig .tc := ⟨.hbm, 3237, rfl⟩
abbrev main_v2198 : Ref sig .tc := ⟨.hbm, 3238, rfl⟩
abbrev main_v2199 : Ref sig .tc := ⟨.hbm, 3239, rfl⟩
abbrev main_v2200 : Ref sig .tc := ⟨.hbm, 3240, rfl⟩
abbrev main_v2201 : Ref sig .tc := ⟨.hbm, 3241, rfl⟩
abbrev main_v2202 : Ref sig .tc := ⟨.hbm, 3242, rfl⟩
abbrev main_v2203 : Ref sig .tc := ⟨.hbm, 3243, rfl⟩
abbrev main_v2204 : Ref sig .tc := ⟨.hbm, 3244, rfl⟩
abbrev main_v2205 : Ref sig .tc := ⟨.hbm, 3245, rfl⟩
abbrev main_v2206 : Ref sig .tc := ⟨.hbm, 3246, rfl⟩
abbrev main_v2207 : Ref sig .tc := ⟨.hbm, 3247, rfl⟩
abbrev main_v2208 : Ref sig .tc := ⟨.hbm, 3248, rfl⟩
abbrev main_v2209 : Ref sig .tc := ⟨.hbm, 3249, rfl⟩
abbrev main_v2210 : Ref sig .tc := ⟨.hbm, 3250, rfl⟩
abbrev main_v2211 : Ref sig .tc := ⟨.hbm, 3251, rfl⟩
abbrev main_v2212 : Ref sig .tc := ⟨.hbm, 3252, rfl⟩
abbrev main_v2213 : Ref sig .tc := ⟨.hbm, 3253, rfl⟩
abbrev main_v2214 : Ref sig .tc := ⟨.hbm, 3254, rfl⟩
abbrev main_v2215 : Ref sig .tc := ⟨.hbm, 3255, rfl⟩
abbrev main_c_670 : Ref sig .tc := ⟨.hbm, 3256, rfl⟩
abbrev main_v2216 : Ref sig .tc := ⟨.hbm, 3257, rfl⟩
abbrev main_v2217 : Ref sig .tc := ⟨.hbm, 3258, rfl⟩
abbrev main_c_671 : Ref sig .tc := ⟨.hbm, 3259, rfl⟩
abbrev main_v2218 : Ref sig .tc := ⟨.hbm, 3260, rfl⟩
abbrev main_v2219 : Ref sig .tc := ⟨.hbm, 3261, rfl⟩
abbrev main_v2220 : Ref sig .tc := ⟨.hbm, 3262, rfl⟩
abbrev main_v2221 : Ref sig .tc := ⟨.hbm, 3263, rfl⟩
abbrev main_v2222 : Ref sig .tc := ⟨.hbm, 3264, rfl⟩
abbrev main_v2223 : Ref sig .tc := ⟨.hbm, 3265, rfl⟩
abbrev main_v2224 : Ref sig .tc := ⟨.hbm, 3266, rfl⟩
abbrev main_cst_672 : Ref sig .tc := ⟨.hbm, 3267, rfl⟩
abbrev main_v2225 : Ref sig .tc := ⟨.hbm, 3268, rfl⟩
abbrev main_v2226 : Ref sig .tc := ⟨.hbm, 3269, rfl⟩
abbrev main_cst_673 : Ref sig .tc := ⟨.hbm, 3270, rfl⟩
abbrev main_v2227 : Ref sig .tc := ⟨.hbm, 3271, rfl⟩
abbrev main_v2228 : Ref sig .tc := ⟨.hbm, 3272, rfl⟩
abbrev main_cst_674 : Ref sig .tc := ⟨.hbm, 3273, rfl⟩
abbrev main_v2229 : Ref sig .tc := ⟨.hbm, 3274, rfl⟩
abbrev main_v2230 : Ref sig .tc := ⟨.hbm, 3275, rfl⟩
abbrev main_v2231 : Ref sig .tc := ⟨.hbm, 3276, rfl⟩
abbrev main_v2232 : Ref sig .tc := ⟨.hbm, 3277, rfl⟩
abbrev main_cst_675 : Ref sig .tc := ⟨.hbm, 3278, rfl⟩
abbrev main_v2233 : Ref sig .tc := ⟨.hbm, 3279, rfl⟩
abbrev main_v2234 : Ref sig .tc := ⟨.hbm, 3280, rfl⟩
abbrev main_cst_676 : Ref sig .tc := ⟨.hbm, 3281, rfl⟩
abbrev main_v2235 : Ref sig .tc := ⟨.hbm, 3282, rfl⟩
abbrev main_v2236 : Ref sig .tc := ⟨.hbm, 3283, rfl⟩
abbrev main_cst_677 : Ref sig .tc := ⟨.hbm, 3284, rfl⟩
abbrev main_v2237 : Ref sig .tc := ⟨.hbm, 3285, rfl⟩
abbrev main_v2238 : Ref sig .tc := ⟨.hbm, 3286, rfl⟩
abbrev main_v2239 : Ref sig .tc := ⟨.hbm, 3287, rfl⟩
abbrev main_v2240 : Ref sig .tc := ⟨.hbm, 3288, rfl⟩
abbrev main_v2241 : Ref sig .tc := ⟨.hbm, 3289, rfl⟩
abbrev main_v2242 : Ref sig .tc := ⟨.hbm, 3290, rfl⟩
abbrev main_v2243 : Ref sig .tc := ⟨.hbm, 3291, rfl⟩
abbrev main_c_678 : Ref sig .tc := ⟨.hbm, 3292, rfl⟩
abbrev main_c_679 : Ref sig .tc := ⟨.hbm, 3293, rfl⟩
abbrev main_call68_v0 : Ref sig .tc := ⟨.hbm, 3294, rfl⟩
abbrev main_call68_v1 : Ref sig .tc := ⟨.hbm, 3295, rfl⟩
abbrev main_call68_v2 : Ref sig .tc := ⟨.hbm, 3296, rfl⟩
abbrev main_call68_v3 : Ref sig .tc := ⟨.hbm, 3297, rfl⟩
abbrev main_call68_v4 : Ref sig .tc := ⟨.hbm, 3298, rfl⟩
abbrev main_v2244 : Ref sig .tc := ⟨.hbm, 3299, rfl⟩
abbrev main_c_680 : Ref sig .tc := ⟨.hbm, 3300, rfl⟩
abbrev main_v2245 : Ref sig .tc := ⟨.hbm, 3301, rfl⟩
abbrev main_v2246 : Ref sig .tc := ⟨.hbm, 3302, rfl⟩
abbrev main_c_681 : Ref sig .tc := ⟨.hbm, 3303, rfl⟩
abbrev main_c_682 : Ref sig .tc := ⟨.hbm, 3304, rfl⟩
abbrev main_call69_v0 : Ref sig .tc := ⟨.hbm, 3305, rfl⟩
abbrev main_call69_v1 : Ref sig .tc := ⟨.hbm, 3306, rfl⟩
abbrev main_call69_v2 : Ref sig .tc := ⟨.hbm, 3307, rfl⟩
abbrev main_call69_v3 : Ref sig .tc := ⟨.hbm, 3308, rfl⟩
abbrev main_call69_v4 : Ref sig .tc := ⟨.hbm, 3309, rfl⟩
abbrev main_v2247 : Ref sig .tc := ⟨.hbm, 3310, rfl⟩
abbrev main_v2248 : Ref sig .tc := ⟨.hbm, 3311, rfl⟩
abbrev main_c_683 : Ref sig .tc := ⟨.hbm, 3312, rfl⟩
abbrev main_c_684 : Ref sig .tc := ⟨.hbm, 3313, rfl⟩
abbrev main_call70_v0 : Ref sig .tc := ⟨.hbm, 3314, rfl⟩
abbrev main_call70_v1 : Ref sig .tc := ⟨.hbm, 3315, rfl⟩
abbrev main_call70_v2 : Ref sig .tc := ⟨.hbm, 3316, rfl⟩
abbrev main_call70_v3 : Ref sig .tc := ⟨.hbm, 3317, rfl⟩
abbrev main_call70_v4 : Ref sig .tc := ⟨.hbm, 3318, rfl⟩
abbrev main_v2249 : Ref sig .tc := ⟨.hbm, 3319, rfl⟩
abbrev main_c_685 : Ref sig .tc := ⟨.hbm, 3320, rfl⟩
abbrev main_v2250 : Ref sig .tc := ⟨.hbm, 3321, rfl⟩
abbrev main_v2251 : Ref sig .tc := ⟨.hbm, 3322, rfl⟩
abbrev main_c_686 : Ref sig .tc := ⟨.hbm, 3323, rfl⟩
abbrev main_c_687 : Ref sig .tc := ⟨.hbm, 3324, rfl⟩
abbrev main_call71_v0 : Ref sig .tc := ⟨.hbm, 3325, rfl⟩
abbrev main_call71_v1 : Ref sig .tc := ⟨.hbm, 3326, rfl⟩
abbrev main_call71_v2 : Ref sig .tc := ⟨.hbm, 3327, rfl⟩
abbrev main_call71_v3 : Ref sig .tc := ⟨.hbm, 3328, rfl⟩
abbrev main_call71_v4 : Ref sig .tc := ⟨.hbm, 3329, rfl⟩
abbrev main_v2252 : Ref sig .tc := ⟨.hbm, 3330, rfl⟩
abbrev main_c_688 : Ref sig .tc := ⟨.hbm, 3331, rfl⟩
abbrev main_v2253 : Ref sig .tc := ⟨.hbm, 3332, rfl⟩
abbrev main_v2254 : Ref sig .tc := ⟨.hbm, 3333, rfl⟩
abbrev main_c_689 : Ref sig .tc := ⟨.hbm, 3334, rfl⟩
abbrev main_v2255 : Ref sig .tc := ⟨.hbm, 3335, rfl⟩
abbrev main_v2256 : Ref sig .tc := ⟨.hbm, 3336, rfl⟩
abbrev main_v2257 : Ref sig .tc := ⟨.hbm, 3337, rfl⟩
abbrev main_c_690 : Ref sig .tc := ⟨.hbm, 3338, rfl⟩
abbrev main_v2258 : Ref sig .tc := ⟨.hbm, 3339, rfl⟩
abbrev main_v2259 : Ref sig .tc := ⟨.hbm, 3340, rfl⟩
abbrev main_c_691 : Ref sig .tc := ⟨.hbm, 3341, rfl⟩
abbrev main_v2260 : Ref sig .tc := ⟨.hbm, 3342, rfl⟩
abbrev main_v2261 : Ref sig .tc := ⟨.hbm, 3343, rfl⟩
abbrev main_v2262 : Ref sig .tc := ⟨.hbm, 3344, rfl⟩
abbrev main_v2263 : Ref sig .tc := ⟨.hbm, 3345, rfl⟩
abbrev main_v2264 : Ref sig .tc := ⟨.hbm, 3346, rfl⟩
abbrev main_v2265 : Ref sig .tc := ⟨.hbm, 3347, rfl⟩
abbrev main_v2266 : Ref sig .tc := ⟨.hbm, 3348, rfl⟩
abbrev main_c_692 : Ref sig .tc := ⟨.hbm, 3349, rfl⟩
abbrev main_v2267 : Ref sig .tc := ⟨.hbm, 3350, rfl⟩
abbrev main_v2268 : Ref sig .tc := ⟨.hbm, 3351, rfl⟩
abbrev main_c_693 : Ref sig .tc := ⟨.hbm, 3352, rfl⟩
abbrev main_v2269 : Ref sig .tc := ⟨.hbm, 3353, rfl⟩
abbrev main_v2270 : Ref sig .tc := ⟨.hbm, 3354, rfl⟩
abbrev main_v2271 : Ref sig .tc := ⟨.hbm, 3355, rfl⟩
abbrev main_c_694 : Ref sig .tc := ⟨.hbm, 3356, rfl⟩
abbrev main_v2272 : Ref sig .tc := ⟨.hbm, 3357, rfl⟩
abbrev main_v2273 : Ref sig .tc := ⟨.hbm, 3358, rfl⟩
abbrev main_c_695 : Ref sig .tc := ⟨.hbm, 3359, rfl⟩
abbrev main_v2274 : Ref sig .tc := ⟨.hbm, 3360, rfl⟩
abbrev main_v2275 : Ref sig .tc := ⟨.hbm, 3361, rfl⟩
abbrev main_v2276 : Ref sig .tc := ⟨.hbm, 3362, rfl⟩
abbrev main_v2277 : Ref sig .tc := ⟨.hbm, 3363, rfl⟩
abbrev main_v2278 : Ref sig .tc := ⟨.hbm, 3364, rfl⟩
abbrev main_v2279 : Ref sig .tc := ⟨.hbm, 3365, rfl⟩
abbrev main_v2280 : Ref sig .tc := ⟨.hbm, 3366, rfl⟩
abbrev main_c_696 : Ref sig .tc := ⟨.hbm, 3367, rfl⟩
abbrev main_v2281 : Ref sig .tc := ⟨.hbm, 3368, rfl⟩
abbrev main_v2282 : Ref sig .tc := ⟨.hbm, 3369, rfl⟩
abbrev main_c_697 : Ref sig .tc := ⟨.hbm, 3370, rfl⟩
abbrev main_v2283 : Ref sig .tc := ⟨.hbm, 3371, rfl⟩
abbrev main_v2284 : Ref sig .tc := ⟨.hbm, 3372, rfl⟩
abbrev main_v2285 : Ref sig .tc := ⟨.hbm, 3373, rfl⟩
abbrev main_c_698 : Ref sig .tc := ⟨.hbm, 3374, rfl⟩
abbrev main_v2286 : Ref sig .tc := ⟨.hbm, 3375, rfl⟩
abbrev main_v2287 : Ref sig .tc := ⟨.hbm, 3376, rfl⟩
abbrev main_c_699 : Ref sig .tc := ⟨.hbm, 3377, rfl⟩
abbrev main_v2288 : Ref sig .tc := ⟨.hbm, 3378, rfl⟩
abbrev main_v2289 : Ref sig .tc := ⟨.hbm, 3379, rfl⟩
abbrev main_v2290 : Ref sig .tc := ⟨.hbm, 3380, rfl⟩
abbrev main_v2291 : Ref sig .tc := ⟨.hbm, 3381, rfl⟩
abbrev main_v2292 : Ref sig .tc := ⟨.hbm, 3382, rfl⟩
abbrev main_v2293 : Ref sig .tc := ⟨.hbm, 3383, rfl⟩
abbrev main_v2294 : Ref sig .tc := ⟨.hbm, 3384, rfl⟩
abbrev main_c_700 : Ref sig .tc := ⟨.hbm, 3385, rfl⟩
abbrev main_v2295 : Ref sig .tc := ⟨.hbm, 3386, rfl⟩
abbrev main_v2296 : Ref sig .tc := ⟨.hbm, 3387, rfl⟩
abbrev main_c_701 : Ref sig .tc := ⟨.hbm, 3388, rfl⟩
abbrev main_v2297 : Ref sig .tc := ⟨.hbm, 3389, rfl⟩
abbrev main_v2298 : Ref sig .tc := ⟨.hbm, 3390, rfl⟩
abbrev main_v2299 : Ref sig .tc := ⟨.hbm, 3391, rfl⟩
abbrev main_c_702 : Ref sig .tc := ⟨.hbm, 3392, rfl⟩
abbrev main_v2300 : Ref sig .tc := ⟨.hbm, 3393, rfl⟩
abbrev main_v2301 : Ref sig .tc := ⟨.hbm, 3394, rfl⟩
abbrev main_c_703 : Ref sig .tc := ⟨.hbm, 3395, rfl⟩
abbrev main_v2302 : Ref sig .tc := ⟨.hbm, 3396, rfl⟩
abbrev main_v2303 : Ref sig .tc := ⟨.hbm, 3397, rfl⟩
abbrev main_v2304 : Ref sig .tc := ⟨.hbm, 3398, rfl⟩
abbrev main_v2305 : Ref sig .tc := ⟨.hbm, 3399, rfl⟩
abbrev main_v2306 : Ref sig .tc := ⟨.hbm, 3400, rfl⟩
abbrev main_v2307 : Ref sig .tc := ⟨.hbm, 3401, rfl⟩
abbrev main_v2308 : Ref sig .tc := ⟨.hbm, 3402, rfl⟩
abbrev main_cst_704 : Ref sig .tc := ⟨.hbm, 3403, rfl⟩
abbrev main_v2309 : Ref sig .tc := ⟨.hbm, 3404, rfl⟩
abbrev main_v2310 : Ref sig .tc := ⟨.hbm, 3405, rfl⟩
abbrev main_v2311 : Ref sig .tc := ⟨.hbm, 3406, rfl⟩
abbrev main_v2312 : Ref sig .tc := ⟨.hbm, 3407, rfl⟩
abbrev main_v2313 : Ref sig .tc := ⟨.hbm, 3408, rfl⟩
abbrev main_cst_705 : Ref sig .tc := ⟨.hbm, 3409, rfl⟩
abbrev main_v2314 : Ref sig .tc := ⟨.hbm, 3410, rfl⟩
abbrev main_v2315 : Ref sig .tc := ⟨.hbm, 3411, rfl⟩
abbrev main_v2316 : Ref sig .tc := ⟨.hbm, 3412, rfl⟩
abbrev main_v2317 : Ref sig .tc := ⟨.hbm, 3413, rfl⟩
abbrev main_v2318 : Ref sig .tc := ⟨.hbm, 3414, rfl⟩
abbrev main_v2319 : Ref sig .tc := ⟨.hbm, 3415, rfl⟩
abbrev main_v2320 : Ref sig .tc := ⟨.hbm, 3416, rfl⟩
abbrev main_v2321 : Ref sig .tc := ⟨.hbm, 3417, rfl⟩
abbrev main_cst_706 : Ref sig .tc := ⟨.hbm, 3418, rfl⟩
abbrev main_v2322 : Ref sig .tc := ⟨.hbm, 3419, rfl⟩
abbrev main_v2323 : Ref sig .tc := ⟨.hbm, 3420, rfl⟩
abbrev main_v2324 : Ref sig .tc := ⟨.hbm, 3421, rfl⟩
abbrev main_v2325 : Ref sig .tc := ⟨.hbm, 3422, rfl⟩
abbrev main_v2326 : Ref sig .tc := ⟨.hbm, 3423, rfl⟩
abbrev main_v2327 : Ref sig .tc := ⟨.hbm, 3424, rfl⟩
abbrev main_cst_707 : Ref sig .tc := ⟨.hbm, 3425, rfl⟩
abbrev main_v2328 : Ref sig .tc := ⟨.hbm, 3426, rfl⟩
abbrev main_v2329 : Ref sig .tc := ⟨.hbm, 3427, rfl⟩
abbrev main_v2330 : Ref sig .tc := ⟨.hbm, 3428, rfl⟩
abbrev main_v2331 : Ref sig .tc := ⟨.hbm, 3429, rfl⟩
abbrev main_v2332 : Ref sig .tc := ⟨.hbm, 3430, rfl⟩
abbrev main_v2333 : Ref sig .tc := ⟨.hbm, 3431, rfl⟩
abbrev main_v2334 : Ref sig .tc := ⟨.hbm, 3432, rfl⟩
abbrev main_v2335 : Ref sig .tc := ⟨.hbm, 3433, rfl⟩
abbrev main_v2336 : Ref sig .tc := ⟨.hbm, 3434, rfl⟩
abbrev main_v2337 : Ref sig .tc := ⟨.hbm, 3435, rfl⟩
abbrev main_v2338 : Ref sig .tc := ⟨.hbm, 3436, rfl⟩
abbrev main_v2339 : Ref sig .tc := ⟨.hbm, 3437, rfl⟩
abbrev main_v2340 : Ref sig .tc := ⟨.hbm, 3438, rfl⟩
abbrev main_v2341 : Ref sig .tc := ⟨.hbm, 3439, rfl⟩
abbrev main_v2342 : Ref sig .tc := ⟨.hbm, 3440, rfl⟩
abbrev main_v2343 : Ref sig .tc := ⟨.hbm, 3441, rfl⟩
abbrev main_v2344 : Ref sig .tc := ⟨.hbm, 3442, rfl⟩
abbrev main_v2345 : Ref sig .tc := ⟨.hbm, 3443, rfl⟩
abbrev main_c_708 : Ref sig .tc := ⟨.hbm, 3444, rfl⟩
abbrev main_v2346 : Ref sig .tc := ⟨.hbm, 3445, rfl⟩
abbrev main_v2347 : Ref sig .tc := ⟨.hbm, 3446, rfl⟩
abbrev main_c_709 : Ref sig .tc := ⟨.hbm, 3447, rfl⟩
abbrev main_v2348 : Ref sig .tc := ⟨.hbm, 3448, rfl⟩
abbrev main_v2349 : Ref sig .tc := ⟨.hbm, 3449, rfl⟩
abbrev main_v2350 : Ref sig .tc := ⟨.hbm, 3450, rfl⟩
abbrev main_v2351 : Ref sig .tc := ⟨.hbm, 3451, rfl⟩
abbrev main_v2352 : Ref sig .tc := ⟨.hbm, 3452, rfl⟩
abbrev main_v2353 : Ref sig .tc := ⟨.hbm, 3453, rfl⟩
abbrev main_v2354 : Ref sig .tc := ⟨.hbm, 3454, rfl⟩
abbrev main_cst_710 : Ref sig .tc := ⟨.hbm, 3455, rfl⟩
abbrev main_v2355 : Ref sig .tc := ⟨.hbm, 3456, rfl⟩
abbrev main_v2356 : Ref sig .tc := ⟨.hbm, 3457, rfl⟩
abbrev main_cst_711 : Ref sig .tc := ⟨.hbm, 3458, rfl⟩
abbrev main_v2357 : Ref sig .tc := ⟨.hbm, 3459, rfl⟩
abbrev main_v2358 : Ref sig .tc := ⟨.hbm, 3460, rfl⟩
abbrev main_cst_712 : Ref sig .tc := ⟨.hbm, 3461, rfl⟩
abbrev main_v2359 : Ref sig .tc := ⟨.hbm, 3462, rfl⟩
abbrev main_v2360 : Ref sig .tc := ⟨.hbm, 3463, rfl⟩
abbrev main_v2361 : Ref sig .tc := ⟨.hbm, 3464, rfl⟩
abbrev main_v2362 : Ref sig .tc := ⟨.hbm, 3465, rfl⟩
abbrev main_cst_713 : Ref sig .tc := ⟨.hbm, 3466, rfl⟩
abbrev main_v2363 : Ref sig .tc := ⟨.hbm, 3467, rfl⟩
abbrev main_v2364 : Ref sig .tc := ⟨.hbm, 3468, rfl⟩
abbrev main_cst_714 : Ref sig .tc := ⟨.hbm, 3469, rfl⟩
abbrev main_v2365 : Ref sig .tc := ⟨.hbm, 3470, rfl⟩
abbrev main_v2366 : Ref sig .tc := ⟨.hbm, 3471, rfl⟩
abbrev main_cst_715 : Ref sig .tc := ⟨.hbm, 3472, rfl⟩
abbrev main_v2367 : Ref sig .tc := ⟨.hbm, 3473, rfl⟩
abbrev main_v2368 : Ref sig .tc := ⟨.hbm, 3474, rfl⟩
abbrev main_v2369 : Ref sig .tc := ⟨.hbm, 3475, rfl⟩
abbrev main_v2370 : Ref sig .tc := ⟨.hbm, 3476, rfl⟩
abbrev main_v2371 : Ref sig .tc := ⟨.hbm, 3477, rfl⟩
abbrev main_v2372 : Ref sig .tc := ⟨.hbm, 3478, rfl⟩
abbrev main_v2373 : Ref sig .tc := ⟨.hbm, 3479, rfl⟩
abbrev main_c_716 : Ref sig .tc := ⟨.hbm, 3480, rfl⟩
abbrev main_c_717 : Ref sig .tc := ⟨.hbm, 3481, rfl⟩
abbrev main_call72_v0 : Ref sig .tc := ⟨.hbm, 3482, rfl⟩
abbrev main_call72_v1 : Ref sig .tc := ⟨.hbm, 3483, rfl⟩
abbrev main_call72_v2 : Ref sig .tc := ⟨.hbm, 3484, rfl⟩
abbrev main_call72_v3 : Ref sig .tc := ⟨.hbm, 3485, rfl⟩
abbrev main_call72_v4 : Ref sig .tc := ⟨.hbm, 3486, rfl⟩
abbrev main_v2374 : Ref sig .tc := ⟨.hbm, 3487, rfl⟩
abbrev main_c_718 : Ref sig .tc := ⟨.hbm, 3488, rfl⟩
abbrev main_v2375 : Ref sig .tc := ⟨.hbm, 3489, rfl⟩
abbrev main_v2376 : Ref sig .tc := ⟨.hbm, 3490, rfl⟩
abbrev main_c_719 : Ref sig .tc := ⟨.hbm, 3491, rfl⟩
abbrev main_c_720 : Ref sig .tc := ⟨.hbm, 3492, rfl⟩
abbrev main_call73_v0 : Ref sig .tc := ⟨.hbm, 3493, rfl⟩
abbrev main_call73_v1 : Ref sig .tc := ⟨.hbm, 3494, rfl⟩
abbrev main_call73_v2 : Ref sig .tc := ⟨.hbm, 3495, rfl⟩
abbrev main_call73_v3 : Ref sig .tc := ⟨.hbm, 3496, rfl⟩
abbrev main_call73_v4 : Ref sig .tc := ⟨.hbm, 3497, rfl⟩
abbrev main_v2377 : Ref sig .tc := ⟨.hbm, 3498, rfl⟩
abbrev main_v2378 : Ref sig .tc := ⟨.hbm, 3499, rfl⟩
abbrev main_c_721 : Ref sig .tc := ⟨.hbm, 3500, rfl⟩
abbrev main_c_722 : Ref sig .tc := ⟨.hbm, 3501, rfl⟩
abbrev main_call74_v0 : Ref sig .tc := ⟨.hbm, 3502, rfl⟩
abbrev main_call74_v1 : Ref sig .tc := ⟨.hbm, 3503, rfl⟩
abbrev main_call74_v2 : Ref sig .tc := ⟨.hbm, 3504, rfl⟩
abbrev main_call74_v3 : Ref sig .tc := ⟨.hbm, 3505, rfl⟩
abbrev main_call74_v4 : Ref sig .tc := ⟨.hbm, 3506, rfl⟩
abbrev main_v2379 : Ref sig .tc := ⟨.hbm, 3507, rfl⟩
abbrev main_c_723 : Ref sig .tc := ⟨.hbm, 3508, rfl⟩
abbrev main_v2380 : Ref sig .tc := ⟨.hbm, 3509, rfl⟩
abbrev main_v2381 : Ref sig .tc := ⟨.hbm, 3510, rfl⟩
abbrev main_c_724 : Ref sig .tc := ⟨.hbm, 3511, rfl⟩
abbrev main_c_725 : Ref sig .tc := ⟨.hbm, 3512, rfl⟩
abbrev main_call75_v0 : Ref sig .tc := ⟨.hbm, 3513, rfl⟩
abbrev main_call75_v1 : Ref sig .tc := ⟨.hbm, 3514, rfl⟩
abbrev main_call75_v2 : Ref sig .tc := ⟨.hbm, 3515, rfl⟩
abbrev main_call75_v3 : Ref sig .tc := ⟨.hbm, 3516, rfl⟩
abbrev main_call75_v4 : Ref sig .tc := ⟨.hbm, 3517, rfl⟩
abbrev main_v2382 : Ref sig .tc := ⟨.hbm, 3518, rfl⟩
abbrev main_c_726 : Ref sig .tc := ⟨.hbm, 3519, rfl⟩
abbrev main_v2383 : Ref sig .tc := ⟨.hbm, 3520, rfl⟩
abbrev main_v2384 : Ref sig .tc := ⟨.hbm, 3521, rfl⟩
abbrev main_c_727 : Ref sig .tc := ⟨.hbm, 3522, rfl⟩
abbrev main_v2385 : Ref sig .tc := ⟨.hbm, 3523, rfl⟩
abbrev main_v2386 : Ref sig .tc := ⟨.hbm, 3524, rfl⟩
abbrev main_v2387 : Ref sig .tc := ⟨.hbm, 3525, rfl⟩
abbrev main_c_728 : Ref sig .tc := ⟨.hbm, 3526, rfl⟩
abbrev main_v2388 : Ref sig .tc := ⟨.hbm, 3527, rfl⟩
abbrev main_v2389 : Ref sig .tc := ⟨.hbm, 3528, rfl⟩
abbrev main_c_729 : Ref sig .tc := ⟨.hbm, 3529, rfl⟩
abbrev main_v2390 : Ref sig .tc := ⟨.hbm, 3530, rfl⟩
abbrev main_v2391 : Ref sig .tc := ⟨.hbm, 3531, rfl⟩
abbrev main_v2392 : Ref sig .tc := ⟨.hbm, 3532, rfl⟩
abbrev main_v2393 : Ref sig .tc := ⟨.hbm, 3533, rfl⟩
abbrev main_v2394 : Ref sig .tc := ⟨.hbm, 3534, rfl⟩
abbrev main_v2395 : Ref sig .tc := ⟨.hbm, 3535, rfl⟩
abbrev main_v2396 : Ref sig .tc := ⟨.hbm, 3536, rfl⟩
abbrev main_c_730 : Ref sig .tc := ⟨.hbm, 3537, rfl⟩
abbrev main_v2397 : Ref sig .tc := ⟨.hbm, 3538, rfl⟩
abbrev main_v2398 : Ref sig .tc := ⟨.hbm, 3539, rfl⟩
abbrev main_c_731 : Ref sig .tc := ⟨.hbm, 3540, rfl⟩
abbrev main_v2399 : Ref sig .tc := ⟨.hbm, 3541, rfl⟩
abbrev main_v2400 : Ref sig .tc := ⟨.hbm, 3542, rfl⟩
abbrev main_v2401 : Ref sig .tc := ⟨.hbm, 3543, rfl⟩
abbrev main_c_732 : Ref sig .tc := ⟨.hbm, 3544, rfl⟩
abbrev main_v2402 : Ref sig .tc := ⟨.hbm, 3545, rfl⟩
abbrev main_v2403 : Ref sig .tc := ⟨.hbm, 3546, rfl⟩
abbrev main_c_733 : Ref sig .tc := ⟨.hbm, 3547, rfl⟩
abbrev main_v2404 : Ref sig .tc := ⟨.hbm, 3548, rfl⟩
abbrev main_v2405 : Ref sig .tc := ⟨.hbm, 3549, rfl⟩
abbrev main_v2406 : Ref sig .tc := ⟨.hbm, 3550, rfl⟩
abbrev main_v2407 : Ref sig .tc := ⟨.hbm, 3551, rfl⟩
abbrev main_v2408 : Ref sig .tc := ⟨.hbm, 3552, rfl⟩
abbrev main_v2409 : Ref sig .tc := ⟨.hbm, 3553, rfl⟩
abbrev main_v2410 : Ref sig .tc := ⟨.hbm, 3554, rfl⟩
abbrev main_c_734 : Ref sig .tc := ⟨.hbm, 3555, rfl⟩
abbrev main_v2411 : Ref sig .tc := ⟨.hbm, 3556, rfl⟩
abbrev main_v2412 : Ref sig .tc := ⟨.hbm, 3557, rfl⟩
abbrev main_c_735 : Ref sig .tc := ⟨.hbm, 3558, rfl⟩
abbrev main_v2413 : Ref sig .tc := ⟨.hbm, 3559, rfl⟩
abbrev main_v2414 : Ref sig .tc := ⟨.hbm, 3560, rfl⟩
abbrev main_v2415 : Ref sig .tc := ⟨.hbm, 3561, rfl⟩
abbrev main_c_736 : Ref sig .tc := ⟨.hbm, 3562, rfl⟩
abbrev main_v2416 : Ref sig .tc := ⟨.hbm, 3563, rfl⟩
abbrev main_v2417 : Ref sig .tc := ⟨.hbm, 3564, rfl⟩
abbrev main_c_737 : Ref sig .tc := ⟨.hbm, 3565, rfl⟩
abbrev main_v2418 : Ref sig .tc := ⟨.hbm, 3566, rfl⟩
abbrev main_v2419 : Ref sig .tc := ⟨.hbm, 3567, rfl⟩
abbrev main_v2420 : Ref sig .tc := ⟨.hbm, 3568, rfl⟩
abbrev main_v2421 : Ref sig .tc := ⟨.hbm, 3569, rfl⟩
abbrev main_v2422 : Ref sig .tc := ⟨.hbm, 3570, rfl⟩
abbrev main_v2423 : Ref sig .tc := ⟨.hbm, 3571, rfl⟩
abbrev main_v2424 : Ref sig .tc := ⟨.hbm, 3572, rfl⟩
abbrev main_c_738 : Ref sig .tc := ⟨.hbm, 3573, rfl⟩
abbrev main_v2425 : Ref sig .tc := ⟨.hbm, 3574, rfl⟩
abbrev main_v2426 : Ref sig .tc := ⟨.hbm, 3575, rfl⟩
abbrev main_c_739 : Ref sig .tc := ⟨.hbm, 3576, rfl⟩
abbrev main_v2427 : Ref sig .tc := ⟨.hbm, 3577, rfl⟩
abbrev main_v2428 : Ref sig .tc := ⟨.hbm, 3578, rfl⟩
abbrev main_v2429 : Ref sig .tc := ⟨.hbm, 3579, rfl⟩
abbrev main_c_740 : Ref sig .tc := ⟨.hbm, 3580, rfl⟩
abbrev main_v2430 : Ref sig .tc := ⟨.hbm, 3581, rfl⟩
abbrev main_v2431 : Ref sig .tc := ⟨.hbm, 3582, rfl⟩
abbrev main_c_741 : Ref sig .tc := ⟨.hbm, 3583, rfl⟩
abbrev main_v2432 : Ref sig .tc := ⟨.hbm, 3584, rfl⟩
abbrev main_v2433 : Ref sig .tc := ⟨.hbm, 3585, rfl⟩
abbrev main_v2434 : Ref sig .tc := ⟨.hbm, 3586, rfl⟩
abbrev main_v2435 : Ref sig .tc := ⟨.hbm, 3587, rfl⟩
abbrev main_v2436 : Ref sig .tc := ⟨.hbm, 3588, rfl⟩
abbrev main_v2437 : Ref sig .tc := ⟨.hbm, 3589, rfl⟩
abbrev main_v2438 : Ref sig .tc := ⟨.hbm, 3590, rfl⟩
abbrev main_cst_742 : Ref sig .tc := ⟨.hbm, 3591, rfl⟩
abbrev main_v2439 : Ref sig .tc := ⟨.hbm, 3592, rfl⟩
abbrev main_v2440 : Ref sig .tc := ⟨.hbm, 3593, rfl⟩
abbrev main_v2441 : Ref sig .tc := ⟨.hbm, 3594, rfl⟩
abbrev main_v2442 : Ref sig .tc := ⟨.hbm, 3595, rfl⟩
abbrev main_v2443 : Ref sig .tc := ⟨.hbm, 3596, rfl⟩
abbrev main_cst_743 : Ref sig .tc := ⟨.hbm, 3597, rfl⟩
abbrev main_v2444 : Ref sig .tc := ⟨.hbm, 3598, rfl⟩
abbrev main_v2445 : Ref sig .tc := ⟨.hbm, 3599, rfl⟩
abbrev main_v2446 : Ref sig .tc := ⟨.hbm, 3600, rfl⟩
abbrev main_v2447 : Ref sig .tc := ⟨.hbm, 3601, rfl⟩
abbrev main_v2448 : Ref sig .tc := ⟨.hbm, 3602, rfl⟩
abbrev main_v2449 : Ref sig .tc := ⟨.hbm, 3603, rfl⟩
abbrev main_v2450 : Ref sig .tc := ⟨.hbm, 3604, rfl⟩
abbrev main_v2451 : Ref sig .tc := ⟨.hbm, 3605, rfl⟩
abbrev main_cst_744 : Ref sig .tc := ⟨.hbm, 3606, rfl⟩
abbrev main_v2452 : Ref sig .tc := ⟨.hbm, 3607, rfl⟩
abbrev main_v2453 : Ref sig .tc := ⟨.hbm, 3608, rfl⟩
abbrev main_v2454 : Ref sig .tc := ⟨.hbm, 3609, rfl⟩
abbrev main_v2455 : Ref sig .tc := ⟨.hbm, 3610, rfl⟩
abbrev main_v2456 : Ref sig .tc := ⟨.hbm, 3611, rfl⟩
abbrev main_v2457 : Ref sig .tc := ⟨.hbm, 3612, rfl⟩
abbrev main_cst_745 : Ref sig .tc := ⟨.hbm, 3613, rfl⟩
abbrev main_v2458 : Ref sig .tc := ⟨.hbm, 3614, rfl⟩
abbrev main_v2459 : Ref sig .tc := ⟨.hbm, 3615, rfl⟩
abbrev main_v2460 : Ref sig .tc := ⟨.hbm, 3616, rfl⟩
abbrev main_v2461 : Ref sig .tc := ⟨.hbm, 3617, rfl⟩
abbrev main_v2462 : Ref sig .tc := ⟨.hbm, 3618, rfl⟩
abbrev main_v2463 : Ref sig .tc := ⟨.hbm, 3619, rfl⟩
abbrev main_v2464 : Ref sig .tc := ⟨.hbm, 3620, rfl⟩
abbrev main_v2465 : Ref sig .tc := ⟨.hbm, 3621, rfl⟩
abbrev main_v2466 : Ref sig .tc := ⟨.hbm, 3622, rfl⟩
abbrev main_v2467 : Ref sig .tc := ⟨.hbm, 3623, rfl⟩
abbrev main_v2468 : Ref sig .tc := ⟨.hbm, 3624, rfl⟩
abbrev main_v2469 : Ref sig .tc := ⟨.hbm, 3625, rfl⟩
abbrev main_v2470 : Ref sig .tc := ⟨.hbm, 3626, rfl⟩
abbrev main_v2471 : Ref sig .tc := ⟨.hbm, 3627, rfl⟩
abbrev main_v2472 : Ref sig .tc := ⟨.hbm, 3628, rfl⟩
abbrev main_v2473 : Ref sig .tc := ⟨.hbm, 3629, rfl⟩
abbrev main_v2474 : Ref sig .tc := ⟨.hbm, 3630, rfl⟩
abbrev main_c_746 : Ref sig .tc := ⟨.hbm, 3631, rfl⟩
abbrev main_v2475 : Ref sig .tc := ⟨.hbm, 3632, rfl⟩
abbrev main_v2476 : Ref sig .tc := ⟨.hbm, 3633, rfl⟩
abbrev main_c_747 : Ref sig .tc := ⟨.hbm, 3634, rfl⟩
abbrev main_v2477 : Ref sig .tc := ⟨.hbm, 3635, rfl⟩
abbrev main_v2478 : Ref sig .tc := ⟨.hbm, 3636, rfl⟩
abbrev main_v2479 : Ref sig .tc := ⟨.hbm, 3637, rfl⟩
abbrev main_v2480 : Ref sig .tc := ⟨.hbm, 3638, rfl⟩
abbrev main_v2481 : Ref sig .tc := ⟨.hbm, 3639, rfl⟩
abbrev main_v2482 : Ref sig .tc := ⟨.hbm, 3640, rfl⟩
abbrev main_v2483 : Ref sig .tc := ⟨.hbm, 3641, rfl⟩
abbrev main_cst_748 : Ref sig .tc := ⟨.hbm, 3642, rfl⟩
abbrev main_v2484 : Ref sig .tc := ⟨.hbm, 3643, rfl⟩
abbrev main_v2485 : Ref sig .tc := ⟨.hbm, 3644, rfl⟩
abbrev main_cst_749 : Ref sig .tc := ⟨.hbm, 3645, rfl⟩
abbrev main_v2486 : Ref sig .tc := ⟨.hbm, 3646, rfl⟩
abbrev main_v2487 : Ref sig .tc := ⟨.hbm, 3647, rfl⟩
abbrev main_cst_750 : Ref sig .tc := ⟨.hbm, 3648, rfl⟩
abbrev main_v2488 : Ref sig .tc := ⟨.hbm, 3649, rfl⟩
abbrev main_v2489 : Ref sig .tc := ⟨.hbm, 3650, rfl⟩
abbrev main_v2490 : Ref sig .tc := ⟨.hbm, 3651, rfl⟩
abbrev main_v2491 : Ref sig .tc := ⟨.hbm, 3652, rfl⟩
abbrev main_cst_751 : Ref sig .tc := ⟨.hbm, 3653, rfl⟩
abbrev main_v2492 : Ref sig .tc := ⟨.hbm, 3654, rfl⟩
abbrev main_v2493 : Ref sig .tc := ⟨.hbm, 3655, rfl⟩
abbrev main_cst_752 : Ref sig .tc := ⟨.hbm, 3656, rfl⟩
abbrev main_v2494 : Ref sig .tc := ⟨.hbm, 3657, rfl⟩
abbrev main_v2495 : Ref sig .tc := ⟨.hbm, 3658, rfl⟩
abbrev main_cst_753 : Ref sig .tc := ⟨.hbm, 3659, rfl⟩
abbrev main_v2496 : Ref sig .tc := ⟨.hbm, 3660, rfl⟩
abbrev main_v2497 : Ref sig .tc := ⟨.hbm, 3661, rfl⟩
abbrev main_v2498 : Ref sig .tc := ⟨.hbm, 3662, rfl⟩
abbrev main_v2499 : Ref sig .tc := ⟨.hbm, 3663, rfl⟩
abbrev main_v2500 : Ref sig .tc := ⟨.hbm, 3664, rfl⟩
abbrev main_v2501 : Ref sig .tc := ⟨.hbm, 3665, rfl⟩
abbrev main_v2502 : Ref sig .tc := ⟨.hbm, 3666, rfl⟩
abbrev main_c_754 : Ref sig .tc := ⟨.hbm, 3667, rfl⟩
abbrev main_c_755 : Ref sig .tc := ⟨.hbm, 3668, rfl⟩
abbrev main_call76_v0 : Ref sig .tc := ⟨.hbm, 3669, rfl⟩
abbrev main_call76_v1 : Ref sig .tc := ⟨.hbm, 3670, rfl⟩
abbrev main_call76_v2 : Ref sig .tc := ⟨.hbm, 3671, rfl⟩
abbrev main_call76_v3 : Ref sig .tc := ⟨.hbm, 3672, rfl⟩
abbrev main_call76_v4 : Ref sig .tc := ⟨.hbm, 3673, rfl⟩
abbrev main_v2503 : Ref sig .tc := ⟨.hbm, 3674, rfl⟩
abbrev main_c_756 : Ref sig .tc := ⟨.hbm, 3675, rfl⟩
abbrev main_v2504 : Ref sig .tc := ⟨.hbm, 3676, rfl⟩
abbrev main_v2505 : Ref sig .tc := ⟨.hbm, 3677, rfl⟩
abbrev main_c_757 : Ref sig .tc := ⟨.hbm, 3678, rfl⟩
abbrev main_c_758 : Ref sig .tc := ⟨.hbm, 3679, rfl⟩
abbrev main_call77_v0 : Ref sig .tc := ⟨.hbm, 3680, rfl⟩
abbrev main_call77_v1 : Ref sig .tc := ⟨.hbm, 3681, rfl⟩
abbrev main_call77_v2 : Ref sig .tc := ⟨.hbm, 3682, rfl⟩
abbrev main_call77_v3 : Ref sig .tc := ⟨.hbm, 3683, rfl⟩
abbrev main_call77_v4 : Ref sig .tc := ⟨.hbm, 3684, rfl⟩
abbrev main_v2506 : Ref sig .tc := ⟨.hbm, 3685, rfl⟩
abbrev main_v2507 : Ref sig .tc := ⟨.hbm, 3686, rfl⟩
abbrev main_c_759 : Ref sig .tc := ⟨.hbm, 3687, rfl⟩
abbrev main_c_760 : Ref sig .tc := ⟨.hbm, 3688, rfl⟩
abbrev main_call78_v0 : Ref sig .tc := ⟨.hbm, 3689, rfl⟩
abbrev main_call78_v1 : Ref sig .tc := ⟨.hbm, 3690, rfl⟩
abbrev main_call78_v2 : Ref sig .tc := ⟨.hbm, 3691, rfl⟩
abbrev main_call78_v3 : Ref sig .tc := ⟨.hbm, 3692, rfl⟩
abbrev main_call78_v4 : Ref sig .tc := ⟨.hbm, 3693, rfl⟩
abbrev main_v2508 : Ref sig .tc := ⟨.hbm, 3694, rfl⟩
abbrev main_c_761 : Ref sig .tc := ⟨.hbm, 3695, rfl⟩
abbrev main_v2509 : Ref sig .tc := ⟨.hbm, 3696, rfl⟩
abbrev main_v2510 : Ref sig .tc := ⟨.hbm, 3697, rfl⟩
abbrev main_c_762 : Ref sig .tc := ⟨.hbm, 3698, rfl⟩
abbrev main_c_763 : Ref sig .tc := ⟨.hbm, 3699, rfl⟩
abbrev main_call79_v0 : Ref sig .tc := ⟨.hbm, 3700, rfl⟩
abbrev main_call79_v1 : Ref sig .tc := ⟨.hbm, 3701, rfl⟩
abbrev main_call79_v2 : Ref sig .tc := ⟨.hbm, 3702, rfl⟩
abbrev main_call79_v3 : Ref sig .tc := ⟨.hbm, 3703, rfl⟩
abbrev main_call79_v4 : Ref sig .tc := ⟨.hbm, 3704, rfl⟩
abbrev main_v2511 : Ref sig .tc := ⟨.hbm, 3705, rfl⟩
abbrev main_c_764 : Ref sig .tc := ⟨.hbm, 3706, rfl⟩
abbrev main_v2512 : Ref sig .tc := ⟨.hbm, 3707, rfl⟩
abbrev main_v2513 : Ref sig .tc := ⟨.hbm, 3708, rfl⟩
abbrev main_c_765 : Ref sig .tc := ⟨.hbm, 3709, rfl⟩
abbrev main_v2514 : Ref sig .tc := ⟨.hbm, 3710, rfl⟩
abbrev main_v2515 : Ref sig .tc := ⟨.hbm, 3711, rfl⟩
abbrev main_v2516 : Ref sig .tc := ⟨.hbm, 3712, rfl⟩
abbrev main_c_766 : Ref sig .tc := ⟨.hbm, 3713, rfl⟩
abbrev main_v2517 : Ref sig .tc := ⟨.hbm, 3714, rfl⟩
abbrev main_v2518 : Ref sig .tc := ⟨.hbm, 3715, rfl⟩
abbrev main_c_767 : Ref sig .tc := ⟨.hbm, 3716, rfl⟩
abbrev main_v2519 : Ref sig .tc := ⟨.hbm, 3717, rfl⟩
abbrev main_v2520 : Ref sig .tc := ⟨.hbm, 3718, rfl⟩
abbrev main_v2521 : Ref sig .tc := ⟨.hbm, 3719, rfl⟩
abbrev main_v2522 : Ref sig .tc := ⟨.hbm, 3720, rfl⟩
abbrev main_v2523 : Ref sig .tc := ⟨.hbm, 3721, rfl⟩
abbrev main_v2524 : Ref sig .tc := ⟨.hbm, 3722, rfl⟩
abbrev main_v2525 : Ref sig .tc := ⟨.hbm, 3723, rfl⟩
abbrev main_c_768 : Ref sig .tc := ⟨.hbm, 3724, rfl⟩
abbrev main_v2526 : Ref sig .tc := ⟨.hbm, 3725, rfl⟩
abbrev main_v2527 : Ref sig .tc := ⟨.hbm, 3726, rfl⟩
abbrev main_c_769 : Ref sig .tc := ⟨.hbm, 3727, rfl⟩
abbrev main_v2528 : Ref sig .tc := ⟨.hbm, 3728, rfl⟩
abbrev main_v2529 : Ref sig .tc := ⟨.hbm, 3729, rfl⟩
abbrev main_v2530 : Ref sig .tc := ⟨.hbm, 3730, rfl⟩
abbrev main_c_770 : Ref sig .tc := ⟨.hbm, 3731, rfl⟩
abbrev main_v2531 : Ref sig .tc := ⟨.hbm, 3732, rfl⟩
abbrev main_v2532 : Ref sig .tc := ⟨.hbm, 3733, rfl⟩
abbrev main_c_771 : Ref sig .tc := ⟨.hbm, 3734, rfl⟩
abbrev main_v2533 : Ref sig .tc := ⟨.hbm, 3735, rfl⟩
abbrev main_v2534 : Ref sig .tc := ⟨.hbm, 3736, rfl⟩
abbrev main_v2535 : Ref sig .tc := ⟨.hbm, 3737, rfl⟩
abbrev main_v2536 : Ref sig .tc := ⟨.hbm, 3738, rfl⟩
abbrev main_v2537 : Ref sig .tc := ⟨.hbm, 3739, rfl⟩
abbrev main_v2538 : Ref sig .tc := ⟨.hbm, 3740, rfl⟩
abbrev main_v2539 : Ref sig .tc := ⟨.hbm, 3741, rfl⟩
abbrev main_c_772 : Ref sig .tc := ⟨.hbm, 3742, rfl⟩
abbrev main_v2540 : Ref sig .tc := ⟨.hbm, 3743, rfl⟩
abbrev main_v2541 : Ref sig .tc := ⟨.hbm, 3744, rfl⟩
abbrev main_c_773 : Ref sig .tc := ⟨.hbm, 3745, rfl⟩
abbrev main_v2542 : Ref sig .tc := ⟨.hbm, 3746, rfl⟩
abbrev main_v2543 : Ref sig .tc := ⟨.hbm, 3747, rfl⟩
abbrev main_v2544 : Ref sig .tc := ⟨.hbm, 3748, rfl⟩
abbrev main_c_774 : Ref sig .tc := ⟨.hbm, 3749, rfl⟩
abbrev main_v2545 : Ref sig .tc := ⟨.hbm, 3750, rfl⟩
abbrev main_v2546 : Ref sig .tc := ⟨.hbm, 3751, rfl⟩
abbrev main_c_775 : Ref sig .tc := ⟨.hbm, 3752, rfl⟩
abbrev main_v2547 : Ref sig .tc := ⟨.hbm, 3753, rfl⟩
abbrev main_v2548 : Ref sig .tc := ⟨.hbm, 3754, rfl⟩
abbrev main_v2549 : Ref sig .tc := ⟨.hbm, 3755, rfl⟩
abbrev main_v2550 : Ref sig .tc := ⟨.hbm, 3756, rfl⟩
abbrev main_v2551 : Ref sig .tc := ⟨.hbm, 3757, rfl⟩
abbrev main_v2552 : Ref sig .tc := ⟨.hbm, 3758, rfl⟩
abbrev main_v2553 : Ref sig .tc := ⟨.hbm, 3759, rfl⟩
abbrev main_c_776 : Ref sig .tc := ⟨.hbm, 3760, rfl⟩
abbrev main_v2554 : Ref sig .tc := ⟨.hbm, 3761, rfl⟩
abbrev main_v2555 : Ref sig .tc := ⟨.hbm, 3762, rfl⟩
abbrev main_c_777 : Ref sig .tc := ⟨.hbm, 3763, rfl⟩
abbrev main_v2556 : Ref sig .tc := ⟨.hbm, 3764, rfl⟩
abbrev main_v2557 : Ref sig .tc := ⟨.hbm, 3765, rfl⟩
abbrev main_v2558 : Ref sig .tc := ⟨.hbm, 3766, rfl⟩
abbrev main_c_778 : Ref sig .tc := ⟨.hbm, 3767, rfl⟩
abbrev main_v2559 : Ref sig .tc := ⟨.hbm, 3768, rfl⟩
abbrev main_v2560 : Ref sig .tc := ⟨.hbm, 3769, rfl⟩
abbrev main_c_779 : Ref sig .tc := ⟨.hbm, 3770, rfl⟩
abbrev main_v2561 : Ref sig .tc := ⟨.hbm, 3771, rfl⟩
abbrev main_v2562 : Ref sig .tc := ⟨.hbm, 3772, rfl⟩
abbrev main_v2563 : Ref sig .tc := ⟨.hbm, 3773, rfl⟩
abbrev main_v2564 : Ref sig .tc := ⟨.hbm, 3774, rfl⟩
abbrev main_v2565 : Ref sig .tc := ⟨.hbm, 3775, rfl⟩
abbrev main_v2566 : Ref sig .tc := ⟨.hbm, 3776, rfl⟩
abbrev main_v2567 : Ref sig .tc := ⟨.hbm, 3777, rfl⟩
abbrev main_cst_780 : Ref sig .tc := ⟨.hbm, 3778, rfl⟩
abbrev main_v2568 : Ref sig .tc := ⟨.hbm, 3779, rfl⟩
abbrev main_v2569 : Ref sig .tc := ⟨.hbm, 3780, rfl⟩
abbrev main_v2570 : Ref sig .tc := ⟨.hbm, 3781, rfl⟩
abbrev main_v2571 : Ref sig .tc := ⟨.hbm, 3782, rfl⟩
abbrev main_v2572 : Ref sig .tc := ⟨.hbm, 3783, rfl⟩
abbrev main_cst_781 : Ref sig .tc := ⟨.hbm, 3784, rfl⟩
abbrev main_v2573 : Ref sig .tc := ⟨.hbm, 3785, rfl⟩
abbrev main_v2574 : Ref sig .tc := ⟨.hbm, 3786, rfl⟩
abbrev main_v2575 : Ref sig .tc := ⟨.hbm, 3787, rfl⟩
abbrev main_v2576 : Ref sig .tc := ⟨.hbm, 3788, rfl⟩
abbrev main_v2577 : Ref sig .tc := ⟨.hbm, 3789, rfl⟩
abbrev main_v2578 : Ref sig .tc := ⟨.hbm, 3790, rfl⟩
abbrev main_v2579 : Ref sig .tc := ⟨.hbm, 3791, rfl⟩
abbrev main_v2580 : Ref sig .tc := ⟨.hbm, 3792, rfl⟩
abbrev main_cst_782 : Ref sig .tc := ⟨.hbm, 3793, rfl⟩
abbrev main_v2581 : Ref sig .tc := ⟨.hbm, 3794, rfl⟩
abbrev main_v2582 : Ref sig .tc := ⟨.hbm, 3795, rfl⟩
abbrev main_v2583 : Ref sig .tc := ⟨.hbm, 3796, rfl⟩
abbrev main_v2584 : Ref sig .tc := ⟨.hbm, 3797, rfl⟩
abbrev main_v2585 : Ref sig .tc := ⟨.hbm, 3798, rfl⟩
abbrev main_v2586 : Ref sig .tc := ⟨.hbm, 3799, rfl⟩
abbrev main_cst_783 : Ref sig .tc := ⟨.hbm, 3800, rfl⟩
abbrev main_v2587 : Ref sig .tc := ⟨.hbm, 3801, rfl⟩
abbrev main_v2588 : Ref sig .tc := ⟨.hbm, 3802, rfl⟩
abbrev main_v2589 : Ref sig .tc := ⟨.hbm, 3803, rfl⟩
abbrev main_v2590 : Ref sig .tc := ⟨.hbm, 3804, rfl⟩
abbrev main_v2591 : Ref sig .tc := ⟨.hbm, 3805, rfl⟩
abbrev main_v2592 : Ref sig .tc := ⟨.hbm, 3806, rfl⟩
abbrev main_v2593 : Ref sig .tc := ⟨.hbm, 3807, rfl⟩
abbrev main_v2594 : Ref sig .tc := ⟨.hbm, 3808, rfl⟩
abbrev main_v2595 : Ref sig .tc := ⟨.hbm, 3809, rfl⟩
abbrev main_v2596 : Ref sig .tc := ⟨.hbm, 3810, rfl⟩
abbrev main_v2597 : Ref sig .tc := ⟨.hbm, 3811, rfl⟩
abbrev main_v2598 : Ref sig .tc := ⟨.hbm, 3812, rfl⟩
abbrev main_v2599 : Ref sig .tc := ⟨.hbm, 3813, rfl⟩
abbrev main_v2600 : Ref sig .tc := ⟨.hbm, 3814, rfl⟩
abbrev main_v2601 : Ref sig .tc := ⟨.hbm, 3815, rfl⟩
abbrev main_v2602 : Ref sig .tc := ⟨.hbm, 3816, rfl⟩
abbrev main_v2603 : Ref sig .tc := ⟨.hbm, 3817, rfl⟩
abbrev main_v2604 : Ref sig .tc := ⟨.hbm, 3818, rfl⟩
abbrev main_c_784 : Ref sig .tc := ⟨.hbm, 3819, rfl⟩
abbrev main_v2605 : Ref sig .tc := ⟨.hbm, 3820, rfl⟩
abbrev main_v2606 : Ref sig .tc := ⟨.hbm, 3821, rfl⟩
abbrev main_c_785 : Ref sig .tc := ⟨.hbm, 3822, rfl⟩
abbrev main_v2607 : Ref sig .tc := ⟨.hbm, 3823, rfl⟩
abbrev main_v2608 : Ref sig .tc := ⟨.hbm, 3824, rfl⟩
abbrev main_v2609 : Ref sig .tc := ⟨.hbm, 3825, rfl⟩
abbrev main_v2610 : Ref sig .tc := ⟨.hbm, 3826, rfl⟩
abbrev main_v2611 : Ref sig .tc := ⟨.hbm, 3827, rfl⟩
abbrev main_v2612 : Ref sig .tc := ⟨.hbm, 3828, rfl⟩
abbrev main_v2613 : Ref sig .tc := ⟨.hbm, 3829, rfl⟩
abbrev main_cst_786 : Ref sig .tc := ⟨.hbm, 3830, rfl⟩
abbrev main_v2614 : Ref sig .tc := ⟨.hbm, 3831, rfl⟩
abbrev main_v2615 : Ref sig .tc := ⟨.hbm, 3832, rfl⟩
abbrev main_cst_787 : Ref sig .tc := ⟨.hbm, 3833, rfl⟩
abbrev main_v2616 : Ref sig .tc := ⟨.hbm, 3834, rfl⟩
abbrev main_v2617 : Ref sig .tc := ⟨.hbm, 3835, rfl⟩
abbrev main_cst_788 : Ref sig .tc := ⟨.hbm, 3836, rfl⟩
abbrev main_v2618 : Ref sig .tc := ⟨.hbm, 3837, rfl⟩
abbrev main_v2619 : Ref sig .tc := ⟨.hbm, 3838, rfl⟩
abbrev main_v2620 : Ref sig .tc := ⟨.hbm, 3839, rfl⟩
abbrev main_v2621 : Ref sig .tc := ⟨.hbm, 3840, rfl⟩
abbrev main_cst_789 : Ref sig .tc := ⟨.hbm, 3841, rfl⟩
abbrev main_v2622 : Ref sig .tc := ⟨.hbm, 3842, rfl⟩
abbrev main_v2623 : Ref sig .tc := ⟨.hbm, 3843, rfl⟩
abbrev main_cst_790 : Ref sig .tc := ⟨.hbm, 3844, rfl⟩
abbrev main_v2624 : Ref sig .tc := ⟨.hbm, 3845, rfl⟩
abbrev main_v2625 : Ref sig .tc := ⟨.hbm, 3846, rfl⟩
abbrev main_cst_791 : Ref sig .tc := ⟨.hbm, 3847, rfl⟩
abbrev main_v2626 : Ref sig .tc := ⟨.hbm, 3848, rfl⟩
abbrev main_v2627 : Ref sig .tc := ⟨.hbm, 3849, rfl⟩
abbrev main_v2628 : Ref sig .tc := ⟨.hbm, 3850, rfl⟩
abbrev main_v2629 : Ref sig .tc := ⟨.hbm, 3851, rfl⟩
abbrev main_v2630 : Ref sig .tc := ⟨.hbm, 3852, rfl⟩
abbrev main_v2631 : Ref sig .tc := ⟨.hbm, 3853, rfl⟩
abbrev main_v2632 : Ref sig .tc := ⟨.hbm, 3854, rfl⟩
abbrev main_c_792 : Ref sig .tc := ⟨.hbm, 3855, rfl⟩
abbrev main_c_793 : Ref sig .tc := ⟨.hbm, 3856, rfl⟩
abbrev main_call80_v0 : Ref sig .tc := ⟨.hbm, 3857, rfl⟩
abbrev main_call80_v1 : Ref sig .tc := ⟨.hbm, 3858, rfl⟩
abbrev main_call80_v2 : Ref sig .tc := ⟨.hbm, 3859, rfl⟩
abbrev main_call80_v3 : Ref sig .tc := ⟨.hbm, 3860, rfl⟩
abbrev main_call80_v4 : Ref sig .tc := ⟨.hbm, 3861, rfl⟩
abbrev main_v2633 : Ref sig .tc := ⟨.hbm, 3862, rfl⟩
abbrev main_c_794 : Ref sig .tc := ⟨.hbm, 3863, rfl⟩
abbrev main_v2634 : Ref sig .tc := ⟨.hbm, 3864, rfl⟩
abbrev main_v2635 : Ref sig .tc := ⟨.hbm, 3865, rfl⟩
abbrev main_c_795 : Ref sig .tc := ⟨.hbm, 3866, rfl⟩
abbrev main_c_796 : Ref sig .tc := ⟨.hbm, 3867, rfl⟩
abbrev main_call81_v0 : Ref sig .tc := ⟨.hbm, 3868, rfl⟩
abbrev main_call81_v1 : Ref sig .tc := ⟨.hbm, 3869, rfl⟩
abbrev main_call81_v2 : Ref sig .tc := ⟨.hbm, 3870, rfl⟩
abbrev main_call81_v3 : Ref sig .tc := ⟨.hbm, 3871, rfl⟩
abbrev main_call81_v4 : Ref sig .tc := ⟨.hbm, 3872, rfl⟩
abbrev main_v2636 : Ref sig .tc := ⟨.hbm, 3873, rfl⟩
abbrev main_v2637 : Ref sig .tc := ⟨.hbm, 3874, rfl⟩
abbrev main_c_797 : Ref sig .tc := ⟨.hbm, 3875, rfl⟩
abbrev main_c_798 : Ref sig .tc := ⟨.hbm, 3876, rfl⟩
abbrev main_call82_v0 : Ref sig .tc := ⟨.hbm, 3877, rfl⟩
abbrev main_call82_v1 : Ref sig .tc := ⟨.hbm, 3878, rfl⟩
abbrev main_call82_v2 : Ref sig .tc := ⟨.hbm, 3879, rfl⟩
abbrev main_call82_v3 : Ref sig .tc := ⟨.hbm, 3880, rfl⟩
abbrev main_call82_v4 : Ref sig .tc := ⟨.hbm, 3881, rfl⟩
abbrev main_v2638 : Ref sig .tc := ⟨.hbm, 3882, rfl⟩
abbrev main_c_799 : Ref sig .tc := ⟨.hbm, 3883, rfl⟩
abbrev main_v2639 : Ref sig .tc := ⟨.hbm, 3884, rfl⟩
abbrev main_v2640 : Ref sig .tc := ⟨.hbm, 3885, rfl⟩
abbrev main_c_800 : Ref sig .tc := ⟨.hbm, 3886, rfl⟩
abbrev main_c_801 : Ref sig .tc := ⟨.hbm, 3887, rfl⟩
abbrev main_call83_v0 : Ref sig .tc := ⟨.hbm, 3888, rfl⟩
abbrev main_call83_v1 : Ref sig .tc := ⟨.hbm, 3889, rfl⟩
abbrev main_call83_v2 : Ref sig .tc := ⟨.hbm, 3890, rfl⟩
abbrev main_call83_v3 : Ref sig .tc := ⟨.hbm, 3891, rfl⟩
abbrev main_call83_v4 : Ref sig .tc := ⟨.hbm, 3892, rfl⟩
abbrev main_v2641 : Ref sig .tc := ⟨.hbm, 3893, rfl⟩
abbrev main_c_802 : Ref sig .tc := ⟨.hbm, 3894, rfl⟩
abbrev main_v2642 : Ref sig .tc := ⟨.hbm, 3895, rfl⟩
abbrev main_v2643 : Ref sig .tc := ⟨.hbm, 3896, rfl⟩
abbrev main_c_803 : Ref sig .tc := ⟨.hbm, 3897, rfl⟩
abbrev main_v2644 : Ref sig .tc := ⟨.hbm, 3898, rfl⟩
abbrev main_v2645 : Ref sig .tc := ⟨.hbm, 3899, rfl⟩
abbrev main_v2646 : Ref sig .tc := ⟨.hbm, 3900, rfl⟩
abbrev main_c_804 : Ref sig .tc := ⟨.hbm, 3901, rfl⟩
abbrev main_v2647 : Ref sig .tc := ⟨.hbm, 3902, rfl⟩
abbrev main_v2648 : Ref sig .tc := ⟨.hbm, 3903, rfl⟩
abbrev main_c_805 : Ref sig .tc := ⟨.hbm, 3904, rfl⟩
abbrev main_v2649 : Ref sig .tc := ⟨.hbm, 3905, rfl⟩
abbrev main_v2650 : Ref sig .tc := ⟨.hbm, 3906, rfl⟩
abbrev main_v2651 : Ref sig .tc := ⟨.hbm, 3907, rfl⟩
abbrev main_v2652 : Ref sig .tc := ⟨.hbm, 3908, rfl⟩
abbrev main_v2653 : Ref sig .tc := ⟨.hbm, 3909, rfl⟩
abbrev main_v2654 : Ref sig .tc := ⟨.hbm, 3910, rfl⟩
abbrev main_v2655 : Ref sig .tc := ⟨.hbm, 3911, rfl⟩
abbrev main_c_806 : Ref sig .tc := ⟨.hbm, 3912, rfl⟩
abbrev main_v2656 : Ref sig .tc := ⟨.hbm, 3913, rfl⟩
abbrev main_v2657 : Ref sig .tc := ⟨.hbm, 3914, rfl⟩
abbrev main_c_807 : Ref sig .tc := ⟨.hbm, 3915, rfl⟩
abbrev main_v2658 : Ref sig .tc := ⟨.hbm, 3916, rfl⟩
abbrev main_v2659 : Ref sig .tc := ⟨.hbm, 3917, rfl⟩
abbrev main_v2660 : Ref sig .tc := ⟨.hbm, 3918, rfl⟩
abbrev main_c_808 : Ref sig .tc := ⟨.hbm, 3919, rfl⟩
abbrev main_v2661 : Ref sig .tc := ⟨.hbm, 3920, rfl⟩
abbrev main_v2662 : Ref sig .tc := ⟨.hbm, 3921, rfl⟩
abbrev main_c_809 : Ref sig .tc := ⟨.hbm, 3922, rfl⟩
abbrev main_v2663 : Ref sig .tc := ⟨.hbm, 3923, rfl⟩
abbrev main_v2664 : Ref sig .tc := ⟨.hbm, 3924, rfl⟩
abbrev main_v2665 : Ref sig .tc := ⟨.hbm, 3925, rfl⟩
abbrev main_v2666 : Ref sig .tc := ⟨.hbm, 3926, rfl⟩
abbrev main_v2667 : Ref sig .tc := ⟨.hbm, 3927, rfl⟩
abbrev main_v2668 : Ref sig .tc := ⟨.hbm, 3928, rfl⟩
abbrev main_v2669 : Ref sig .tc := ⟨.hbm, 3929, rfl⟩
abbrev main_c_810 : Ref sig .tc := ⟨.hbm, 3930, rfl⟩
abbrev main_v2670 : Ref sig .tc := ⟨.hbm, 3931, rfl⟩
abbrev main_v2671 : Ref sig .tc := ⟨.hbm, 3932, rfl⟩
abbrev main_c_811 : Ref sig .tc := ⟨.hbm, 3933, rfl⟩
abbrev main_v2672 : Ref sig .tc := ⟨.hbm, 3934, rfl⟩
abbrev main_v2673 : Ref sig .tc := ⟨.hbm, 3935, rfl⟩
abbrev main_v2674 : Ref sig .tc := ⟨.hbm, 3936, rfl⟩
abbrev main_c_812 : Ref sig .tc := ⟨.hbm, 3937, rfl⟩
abbrev main_v2675 : Ref sig .tc := ⟨.hbm, 3938, rfl⟩
abbrev main_v2676 : Ref sig .tc := ⟨.hbm, 3939, rfl⟩
abbrev main_c_813 : Ref sig .tc := ⟨.hbm, 3940, rfl⟩
abbrev main_v2677 : Ref sig .tc := ⟨.hbm, 3941, rfl⟩
abbrev main_v2678 : Ref sig .tc := ⟨.hbm, 3942, rfl⟩
abbrev main_v2679 : Ref sig .tc := ⟨.hbm, 3943, rfl⟩
abbrev main_v2680 : Ref sig .tc := ⟨.hbm, 3944, rfl⟩
abbrev main_v2681 : Ref sig .tc := ⟨.hbm, 3945, rfl⟩
abbrev main_v2682 : Ref sig .tc := ⟨.hbm, 3946, rfl⟩
abbrev main_v2683 : Ref sig .tc := ⟨.hbm, 3947, rfl⟩
abbrev main_c_814 : Ref sig .tc := ⟨.hbm, 3948, rfl⟩
abbrev main_v2684 : Ref sig .tc := ⟨.hbm, 3949, rfl⟩
abbrev main_v2685 : Ref sig .tc := ⟨.hbm, 3950, rfl⟩
abbrev main_c_815 : Ref sig .tc := ⟨.hbm, 3951, rfl⟩
abbrev main_v2686 : Ref sig .tc := ⟨.hbm, 3952, rfl⟩
abbrev main_v2687 : Ref sig .tc := ⟨.hbm, 3953, rfl⟩
abbrev main_v2688 : Ref sig .tc := ⟨.hbm, 3954, rfl⟩
abbrev main_c_816 : Ref sig .tc := ⟨.hbm, 3955, rfl⟩
abbrev main_v2689 : Ref sig .tc := ⟨.hbm, 3956, rfl⟩
abbrev main_v2690 : Ref sig .tc := ⟨.hbm, 3957, rfl⟩
abbrev main_c_817 : Ref sig .tc := ⟨.hbm, 3958, rfl⟩
abbrev main_v2691 : Ref sig .tc := ⟨.hbm, 3959, rfl⟩
abbrev main_v2692 : Ref sig .tc := ⟨.hbm, 3960, rfl⟩
abbrev main_v2693 : Ref sig .tc := ⟨.hbm, 3961, rfl⟩
abbrev main_v2694 : Ref sig .tc := ⟨.hbm, 3962, rfl⟩
abbrev main_v2695 : Ref sig .tc := ⟨.hbm, 3963, rfl⟩
abbrev main_v2696 : Ref sig .tc := ⟨.hbm, 3964, rfl⟩
abbrev main_v2697 : Ref sig .tc := ⟨.hbm, 3965, rfl⟩
abbrev main_cst_818 : Ref sig .tc := ⟨.hbm, 3966, rfl⟩
abbrev main_v2698 : Ref sig .tc := ⟨.hbm, 3967, rfl⟩
abbrev main_v2699 : Ref sig .tc := ⟨.hbm, 3968, rfl⟩
abbrev main_v2700 : Ref sig .tc := ⟨.hbm, 3969, rfl⟩
abbrev main_v2701 : Ref sig .tc := ⟨.hbm, 3970, rfl⟩
abbrev main_v2702 : Ref sig .tc := ⟨.hbm, 3971, rfl⟩
abbrev main_cst_819 : Ref sig .tc := ⟨.hbm, 3972, rfl⟩
abbrev main_v2703 : Ref sig .tc := ⟨.hbm, 3973, rfl⟩
abbrev main_v2704 : Ref sig .tc := ⟨.hbm, 3974, rfl⟩
abbrev main_v2705 : Ref sig .tc := ⟨.hbm, 3975, rfl⟩
abbrev main_v2706 : Ref sig .tc := ⟨.hbm, 3976, rfl⟩
abbrev main_v2707 : Ref sig .tc := ⟨.hbm, 3977, rfl⟩
abbrev main_v2708 : Ref sig .tc := ⟨.hbm, 3978, rfl⟩
abbrev main_v2709 : Ref sig .tc := ⟨.hbm, 3979, rfl⟩
abbrev main_v2710 : Ref sig .tc := ⟨.hbm, 3980, rfl⟩
abbrev main_cst_820 : Ref sig .tc := ⟨.hbm, 3981, rfl⟩
abbrev main_v2711 : Ref sig .tc := ⟨.hbm, 3982, rfl⟩
abbrev main_v2712 : Ref sig .tc := ⟨.hbm, 3983, rfl⟩
abbrev main_v2713 : Ref sig .tc := ⟨.hbm, 3984, rfl⟩
abbrev main_v2714 : Ref sig .tc := ⟨.hbm, 3985, rfl⟩
abbrev main_v2715 : Ref sig .tc := ⟨.hbm, 3986, rfl⟩
abbrev main_v2716 : Ref sig .tc := ⟨.hbm, 3987, rfl⟩
abbrev main_cst_821 : Ref sig .tc := ⟨.hbm, 3988, rfl⟩
abbrev main_v2717 : Ref sig .tc := ⟨.hbm, 3989, rfl⟩
abbrev main_v2718 : Ref sig .tc := ⟨.hbm, 3990, rfl⟩
abbrev main_v2719 : Ref sig .tc := ⟨.hbm, 3991, rfl⟩
abbrev main_v2720 : Ref sig .tc := ⟨.hbm, 3992, rfl⟩
abbrev main_v2721 : Ref sig .tc := ⟨.hbm, 3993, rfl⟩
abbrev main_v2722 : Ref sig .tc := ⟨.hbm, 3994, rfl⟩
abbrev main_v2723 : Ref sig .tc := ⟨.hbm, 3995, rfl⟩
abbrev main_v2724 : Ref sig .tc := ⟨.hbm, 3996, rfl⟩
abbrev main_v2725 : Ref sig .tc := ⟨.hbm, 3997, rfl⟩
abbrev main_v2726 : Ref sig .tc := ⟨.hbm, 3998, rfl⟩
abbrev main_v2727 : Ref sig .tc := ⟨.hbm, 3999, rfl⟩
abbrev main_v2728 : Ref sig .tc := ⟨.hbm, 4000, rfl⟩
abbrev main_v2729 : Ref sig .tc := ⟨.hbm, 4001, rfl⟩
abbrev main_v2730 : Ref sig .tc := ⟨.hbm, 4002, rfl⟩
abbrev main_v2731 : Ref sig .tc := ⟨.hbm, 4003, rfl⟩
abbrev main_v2732 : Ref sig .tc := ⟨.hbm, 4004, rfl⟩
abbrev main_v2733 : Ref sig .tc := ⟨.hbm, 4005, rfl⟩
abbrev main_v2734 : Ref sig .tc := ⟨.hbm, 4006, rfl⟩
abbrev main_c_822 : Ref sig .tc := ⟨.hbm, 4007, rfl⟩
abbrev main_v2735 : Ref sig .tc := ⟨.hbm, 4008, rfl⟩
abbrev main_v2736 : Ref sig .tc := ⟨.hbm, 4009, rfl⟩
abbrev main_c_823 : Ref sig .tc := ⟨.hbm, 4010, rfl⟩
abbrev main_v2737 : Ref sig .tc := ⟨.hbm, 4011, rfl⟩
abbrev main_v2738 : Ref sig .tc := ⟨.hbm, 4012, rfl⟩
abbrev main_v2739 : Ref sig .tc := ⟨.hbm, 4013, rfl⟩
abbrev main_v2740 : Ref sig .tc := ⟨.hbm, 4014, rfl⟩
abbrev main_v2741 : Ref sig .tc := ⟨.hbm, 4015, rfl⟩
abbrev main_v2742 : Ref sig .tc := ⟨.hbm, 4016, rfl⟩
abbrev main_v2743 : Ref sig .tc := ⟨.hbm, 4017, rfl⟩
abbrev main_cst_824 : Ref sig .tc := ⟨.hbm, 4018, rfl⟩
abbrev main_v2744 : Ref sig .tc := ⟨.hbm, 4019, rfl⟩
abbrev main_v2745 : Ref sig .tc := ⟨.hbm, 4020, rfl⟩
abbrev main_cst_825 : Ref sig .tc := ⟨.hbm, 4021, rfl⟩
abbrev main_v2746 : Ref sig .tc := ⟨.hbm, 4022, rfl⟩
abbrev main_v2747 : Ref sig .tc := ⟨.hbm, 4023, rfl⟩
abbrev main_cst_826 : Ref sig .tc := ⟨.hbm, 4024, rfl⟩
abbrev main_v2748 : Ref sig .tc := ⟨.hbm, 4025, rfl⟩
abbrev main_v2749 : Ref sig .tc := ⟨.hbm, 4026, rfl⟩
abbrev main_v2750 : Ref sig .tc := ⟨.hbm, 4027, rfl⟩
abbrev main_v2751 : Ref sig .tc := ⟨.hbm, 4028, rfl⟩
abbrev main_cst_827 : Ref sig .tc := ⟨.hbm, 4029, rfl⟩
abbrev main_v2752 : Ref sig .tc := ⟨.hbm, 4030, rfl⟩
abbrev main_v2753 : Ref sig .tc := ⟨.hbm, 4031, rfl⟩
abbrev main_cst_828 : Ref sig .tc := ⟨.hbm, 4032, rfl⟩
abbrev main_v2754 : Ref sig .tc := ⟨.hbm, 4033, rfl⟩
abbrev main_v2755 : Ref sig .tc := ⟨.hbm, 4034, rfl⟩
abbrev main_cst_829 : Ref sig .tc := ⟨.hbm, 4035, rfl⟩
abbrev main_v2756 : Ref sig .tc := ⟨.hbm, 4036, rfl⟩
abbrev main_v2757 : Ref sig .tc := ⟨.hbm, 4037, rfl⟩
abbrev main_v2758 : Ref sig .tc := ⟨.hbm, 4038, rfl⟩
abbrev main_v2759 : Ref sig .tc := ⟨.hbm, 4039, rfl⟩
abbrev main_v2760 : Ref sig .tc := ⟨.hbm, 4040, rfl⟩
abbrev main_v2761 : Ref sig .tc := ⟨.hbm, 4041, rfl⟩
abbrev main_v2762 : Ref sig .tc := ⟨.hbm, 4042, rfl⟩
abbrev main_c_830 : Ref sig .tc := ⟨.hbm, 4043, rfl⟩
abbrev main_c_831 : Ref sig .tc := ⟨.hbm, 4044, rfl⟩
abbrev main_call84_v0 : Ref sig .tc := ⟨.hbm, 4045, rfl⟩
abbrev main_call84_v1 : Ref sig .tc := ⟨.hbm, 4046, rfl⟩
abbrev main_call84_v2 : Ref sig .tc := ⟨.hbm, 4047, rfl⟩
abbrev main_call84_v3 : Ref sig .tc := ⟨.hbm, 4048, rfl⟩
abbrev main_call84_v4 : Ref sig .tc := ⟨.hbm, 4049, rfl⟩
abbrev main_v2763 : Ref sig .tc := ⟨.hbm, 4050, rfl⟩
abbrev main_c_832 : Ref sig .tc := ⟨.hbm, 4051, rfl⟩
abbrev main_v2764 : Ref sig .tc := ⟨.hbm, 4052, rfl⟩
abbrev main_v2765 : Ref sig .tc := ⟨.hbm, 4053, rfl⟩
abbrev main_c_833 : Ref sig .tc := ⟨.hbm, 4054, rfl⟩
abbrev main_c_834 : Ref sig .tc := ⟨.hbm, 4055, rfl⟩
abbrev main_call85_v0 : Ref sig .tc := ⟨.hbm, 4056, rfl⟩
abbrev main_call85_v1 : Ref sig .tc := ⟨.hbm, 4057, rfl⟩
abbrev main_call85_v2 : Ref sig .tc := ⟨.hbm, 4058, rfl⟩
abbrev main_call85_v3 : Ref sig .tc := ⟨.hbm, 4059, rfl⟩
abbrev main_call85_v4 : Ref sig .tc := ⟨.hbm, 4060, rfl⟩
abbrev main_v2766 : Ref sig .tc := ⟨.hbm, 4061, rfl⟩
abbrev main_v2767 : Ref sig .tc := ⟨.hbm, 4062, rfl⟩
abbrev main_c_835 : Ref sig .tc := ⟨.hbm, 4063, rfl⟩
abbrev main_c_836 : Ref sig .tc := ⟨.hbm, 4064, rfl⟩
abbrev main_call86_v0 : Ref sig .tc := ⟨.hbm, 4065, rfl⟩
abbrev main_call86_v1 : Ref sig .tc := ⟨.hbm, 4066, rfl⟩
abbrev main_call86_v2 : Ref sig .tc := ⟨.hbm, 4067, rfl⟩
abbrev main_call86_v3 : Ref sig .tc := ⟨.hbm, 4068, rfl⟩
abbrev main_call86_v4 : Ref sig .tc := ⟨.hbm, 4069, rfl⟩
abbrev main_v2768 : Ref sig .tc := ⟨.hbm, 4070, rfl⟩
abbrev main_c_837 : Ref sig .tc := ⟨.hbm, 4071, rfl⟩
abbrev main_v2769 : Ref sig .tc := ⟨.hbm, 4072, rfl⟩
abbrev main_v2770 : Ref sig .tc := ⟨.hbm, 4073, rfl⟩
abbrev main_c_838 : Ref sig .tc := ⟨.hbm, 4074, rfl⟩
abbrev main_c_839 : Ref sig .tc := ⟨.hbm, 4075, rfl⟩
abbrev main_call87_v0 : Ref sig .tc := ⟨.hbm, 4076, rfl⟩
abbrev main_call87_v1 : Ref sig .tc := ⟨.hbm, 4077, rfl⟩
abbrev main_call87_v2 : Ref sig .tc := ⟨.hbm, 4078, rfl⟩
abbrev main_call87_v3 : Ref sig .tc := ⟨.hbm, 4079, rfl⟩
abbrev main_call87_v4 : Ref sig .tc := ⟨.hbm, 4080, rfl⟩
abbrev main_v2771 : Ref sig .tc := ⟨.hbm, 4081, rfl⟩
abbrev main_c_840 : Ref sig .tc := ⟨.hbm, 4082, rfl⟩
abbrev main_v2772 : Ref sig .tc := ⟨.hbm, 4083, rfl⟩
abbrev main_v2773 : Ref sig .tc := ⟨.hbm, 4084, rfl⟩
abbrev main_c_841 : Ref sig .tc := ⟨.hbm, 4085, rfl⟩
abbrev main_v2774 : Ref sig .tc := ⟨.hbm, 4086, rfl⟩
abbrev main_v2775 : Ref sig .tc := ⟨.hbm, 4087, rfl⟩
abbrev main_v2776 : Ref sig .tc := ⟨.hbm, 4088, rfl⟩
abbrev main_c_842 : Ref sig .tc := ⟨.hbm, 4089, rfl⟩
abbrev main_v2777 : Ref sig .tc := ⟨.hbm, 4090, rfl⟩
abbrev main_v2778 : Ref sig .tc := ⟨.hbm, 4091, rfl⟩
abbrev main_c_843 : Ref sig .tc := ⟨.hbm, 4092, rfl⟩
abbrev main_v2779 : Ref sig .tc := ⟨.hbm, 4093, rfl⟩
abbrev main_v2780 : Ref sig .tc := ⟨.hbm, 4094, rfl⟩
abbrev main_v2781 : Ref sig .tc := ⟨.hbm, 4095, rfl⟩
abbrev main_v2782 : Ref sig .tc := ⟨.hbm, 4096, rfl⟩
abbrev main_v2783 : Ref sig .tc := ⟨.hbm, 4097, rfl⟩
abbrev main_v2784 : Ref sig .tc := ⟨.hbm, 4098, rfl⟩
abbrev main_v2785 : Ref sig .tc := ⟨.hbm, 4099, rfl⟩
abbrev main_c_844 : Ref sig .tc := ⟨.hbm, 4100, rfl⟩
abbrev main_v2786 : Ref sig .tc := ⟨.hbm, 4101, rfl⟩
abbrev main_v2787 : Ref sig .tc := ⟨.hbm, 4102, rfl⟩
abbrev main_c_845 : Ref sig .tc := ⟨.hbm, 4103, rfl⟩
abbrev main_v2788 : Ref sig .tc := ⟨.hbm, 4104, rfl⟩
abbrev main_v2789 : Ref sig .tc := ⟨.hbm, 4105, rfl⟩
abbrev main_v2790 : Ref sig .tc := ⟨.hbm, 4106, rfl⟩
abbrev main_c_846 : Ref sig .tc := ⟨.hbm, 4107, rfl⟩
abbrev main_v2791 : Ref sig .tc := ⟨.hbm, 4108, rfl⟩
abbrev main_v2792 : Ref sig .tc := ⟨.hbm, 4109, rfl⟩
abbrev main_c_847 : Ref sig .tc := ⟨.hbm, 4110, rfl⟩
abbrev main_v2793 : Ref sig .tc := ⟨.hbm, 4111, rfl⟩
abbrev main_v2794 : Ref sig .tc := ⟨.hbm, 4112, rfl⟩
abbrev main_v2795 : Ref sig .tc := ⟨.hbm, 4113, rfl⟩
abbrev main_v2796 : Ref sig .tc := ⟨.hbm, 4114, rfl⟩
abbrev main_v2797 : Ref sig .tc := ⟨.hbm, 4115, rfl⟩
abbrev main_v2798 : Ref sig .tc := ⟨.hbm, 4116, rfl⟩
abbrev main_v2799 : Ref sig .tc := ⟨.hbm, 4117, rfl⟩
abbrev main_c_848 : Ref sig .tc := ⟨.hbm, 4118, rfl⟩
abbrev main_v2800 : Ref sig .tc := ⟨.hbm, 4119, rfl⟩
abbrev main_v2801 : Ref sig .tc := ⟨.hbm, 4120, rfl⟩
abbrev main_c_849 : Ref sig .tc := ⟨.hbm, 4121, rfl⟩
abbrev main_v2802 : Ref sig .tc := ⟨.hbm, 4122, rfl⟩
abbrev main_v2803 : Ref sig .tc := ⟨.hbm, 4123, rfl⟩
abbrev main_v2804 : Ref sig .tc := ⟨.hbm, 4124, rfl⟩
abbrev main_c_850 : Ref sig .tc := ⟨.hbm, 4125, rfl⟩
abbrev main_v2805 : Ref sig .tc := ⟨.hbm, 4126, rfl⟩
abbrev main_v2806 : Ref sig .tc := ⟨.hbm, 4127, rfl⟩
abbrev main_c_851 : Ref sig .tc := ⟨.hbm, 4128, rfl⟩
abbrev main_v2807 : Ref sig .tc := ⟨.hbm, 4129, rfl⟩
abbrev main_v2808 : Ref sig .tc := ⟨.hbm, 4130, rfl⟩
abbrev main_v2809 : Ref sig .tc := ⟨.hbm, 4131, rfl⟩
abbrev main_v2810 : Ref sig .tc := ⟨.hbm, 4132, rfl⟩
abbrev main_v2811 : Ref sig .tc := ⟨.hbm, 4133, rfl⟩
abbrev main_v2812 : Ref sig .tc := ⟨.hbm, 4134, rfl⟩
abbrev main_v2813 : Ref sig .tc := ⟨.hbm, 4135, rfl⟩
abbrev main_c_852 : Ref sig .tc := ⟨.hbm, 4136, rfl⟩
abbrev main_v2814 : Ref sig .tc := ⟨.hbm, 4137, rfl⟩
abbrev main_v2815 : Ref sig .tc := ⟨.hbm, 4138, rfl⟩
abbrev main_c_853 : Ref sig .tc := ⟨.hbm, 4139, rfl⟩
abbrev main_v2816 : Ref sig .tc := ⟨.hbm, 4140, rfl⟩
abbrev main_v2817 : Ref sig .tc := ⟨.hbm, 4141, rfl⟩
abbrev main_v2818 : Ref sig .tc := ⟨.hbm, 4142, rfl⟩
abbrev main_c_854 : Ref sig .tc := ⟨.hbm, 4143, rfl⟩
abbrev main_v2819 : Ref sig .tc := ⟨.hbm, 4144, rfl⟩
abbrev main_v2820 : Ref sig .tc := ⟨.hbm, 4145, rfl⟩
abbrev main_c_855 : Ref sig .tc := ⟨.hbm, 4146, rfl⟩
abbrev main_v2821 : Ref sig .tc := ⟨.hbm, 4147, rfl⟩
abbrev main_v2822 : Ref sig .tc := ⟨.hbm, 4148, rfl⟩
abbrev main_v2823 : Ref sig .tc := ⟨.hbm, 4149, rfl⟩
abbrev main_v2824 : Ref sig .tc := ⟨.hbm, 4150, rfl⟩
abbrev main_v2825 : Ref sig .tc := ⟨.hbm, 4151, rfl⟩
abbrev main_v2826 : Ref sig .tc := ⟨.hbm, 4152, rfl⟩
abbrev main_v2827 : Ref sig .tc := ⟨.hbm, 4153, rfl⟩
abbrev main_cst_856 : Ref sig .tc := ⟨.hbm, 4154, rfl⟩
abbrev main_v2828 : Ref sig .tc := ⟨.hbm, 4155, rfl⟩
abbrev main_v2829 : Ref sig .tc := ⟨.hbm, 4156, rfl⟩
abbrev main_v2830 : Ref sig .tc := ⟨.hbm, 4157, rfl⟩
abbrev main_v2831 : Ref sig .tc := ⟨.hbm, 4158, rfl⟩
abbrev main_v2832 : Ref sig .tc := ⟨.hbm, 4159, rfl⟩
abbrev main_cst_857 : Ref sig .tc := ⟨.hbm, 4160, rfl⟩
abbrev main_v2833 : Ref sig .tc := ⟨.hbm, 4161, rfl⟩
abbrev main_v2834 : Ref sig .tc := ⟨.hbm, 4162, rfl⟩
abbrev main_v2835 : Ref sig .tc := ⟨.hbm, 4163, rfl⟩
abbrev main_v2836 : Ref sig .tc := ⟨.hbm, 4164, rfl⟩
abbrev main_v2837 : Ref sig .tc := ⟨.hbm, 4165, rfl⟩
abbrev main_v2838 : Ref sig .tc := ⟨.hbm, 4166, rfl⟩
abbrev main_v2839 : Ref sig .tc := ⟨.hbm, 4167, rfl⟩
abbrev main_v2840 : Ref sig .tc := ⟨.hbm, 4168, rfl⟩
abbrev main_cst_858 : Ref sig .tc := ⟨.hbm, 4169, rfl⟩
abbrev main_v2841 : Ref sig .tc := ⟨.hbm, 4170, rfl⟩
abbrev main_v2842 : Ref sig .tc := ⟨.hbm, 4171, rfl⟩
abbrev main_v2843 : Ref sig .tc := ⟨.hbm, 4172, rfl⟩
abbrev main_v2844 : Ref sig .tc := ⟨.hbm, 4173, rfl⟩
abbrev main_v2845 : Ref sig .tc := ⟨.hbm, 4174, rfl⟩
abbrev main_v2846 : Ref sig .tc := ⟨.hbm, 4175, rfl⟩
abbrev main_cst_859 : Ref sig .tc := ⟨.hbm, 4176, rfl⟩
abbrev main_v2847 : Ref sig .tc := ⟨.hbm, 4177, rfl⟩
abbrev main_v2848 : Ref sig .tc := ⟨.hbm, 4178, rfl⟩
abbrev main_v2849 : Ref sig .tc := ⟨.hbm, 4179, rfl⟩
abbrev main_v2850 : Ref sig .tc := ⟨.hbm, 4180, rfl⟩
abbrev main_v2851 : Ref sig .tc := ⟨.hbm, 4181, rfl⟩
abbrev main_v2852 : Ref sig .tc := ⟨.hbm, 4182, rfl⟩
abbrev main_v2853 : Ref sig .tc := ⟨.hbm, 4183, rfl⟩
abbrev main_v2854 : Ref sig .tc := ⟨.hbm, 4184, rfl⟩
abbrev main_v2855 : Ref sig .tc := ⟨.hbm, 4185, rfl⟩
abbrev main_v2856 : Ref sig .tc := ⟨.hbm, 4186, rfl⟩
abbrev main_v2857 : Ref sig .tc := ⟨.hbm, 4187, rfl⟩
abbrev main_v2858 : Ref sig .tc := ⟨.hbm, 4188, rfl⟩
abbrev main_v2859 : Ref sig .tc := ⟨.hbm, 4189, rfl⟩
abbrev main_v2860 : Ref sig .tc := ⟨.hbm, 4190, rfl⟩
abbrev main_v2861 : Ref sig .tc := ⟨.hbm, 4191, rfl⟩
abbrev main_v2862 : Ref sig .tc := ⟨.hbm, 4192, rfl⟩
abbrev main_v2863 : Ref sig .tc := ⟨.hbm, 4193, rfl⟩
abbrev main_v2864 : Ref sig .tc := ⟨.hbm, 4194, rfl⟩
abbrev main_c_860 : Ref sig .tc := ⟨.hbm, 4195, rfl⟩
abbrev main_v2865 : Ref sig .tc := ⟨.hbm, 4196, rfl⟩
abbrev main_v2866 : Ref sig .tc := ⟨.hbm, 4197, rfl⟩
abbrev main_c_861 : Ref sig .tc := ⟨.hbm, 4198, rfl⟩
abbrev main_v2867 : Ref sig .tc := ⟨.hbm, 4199, rfl⟩
abbrev main_v2868 : Ref sig .tc := ⟨.hbm, 4200, rfl⟩
abbrev main_v2869 : Ref sig .tc := ⟨.hbm, 4201, rfl⟩
abbrev main_v2870 : Ref sig .tc := ⟨.hbm, 4202, rfl⟩
abbrev main_v2871 : Ref sig .tc := ⟨.hbm, 4203, rfl⟩
abbrev main_v2872 : Ref sig .tc := ⟨.hbm, 4204, rfl⟩
abbrev main_v2873 : Ref sig .tc := ⟨.hbm, 4205, rfl⟩
abbrev main_cst_862 : Ref sig .tc := ⟨.hbm, 4206, rfl⟩
abbrev main_v2874 : Ref sig .tc := ⟨.hbm, 4207, rfl⟩
abbrev main_v2875 : Ref sig .tc := ⟨.hbm, 4208, rfl⟩
abbrev main_cst_863 : Ref sig .tc := ⟨.hbm, 4209, rfl⟩
abbrev main_v2876 : Ref sig .tc := ⟨.hbm, 4210, rfl⟩
abbrev main_v2877 : Ref sig .tc := ⟨.hbm, 4211, rfl⟩
abbrev main_cst_864 : Ref sig .tc := ⟨.hbm, 4212, rfl⟩
abbrev main_v2878 : Ref sig .tc := ⟨.hbm, 4213, rfl⟩
abbrev main_v2879 : Ref sig .tc := ⟨.hbm, 4214, rfl⟩
abbrev main_v2880 : Ref sig .tc := ⟨.hbm, 4215, rfl⟩
abbrev main_v2881 : Ref sig .tc := ⟨.hbm, 4216, rfl⟩
abbrev main_cst_865 : Ref sig .tc := ⟨.hbm, 4217, rfl⟩
abbrev main_v2882 : Ref sig .tc := ⟨.hbm, 4218, rfl⟩
abbrev main_v2883 : Ref sig .tc := ⟨.hbm, 4219, rfl⟩
abbrev main_cst_866 : Ref sig .tc := ⟨.hbm, 4220, rfl⟩
abbrev main_v2884 : Ref sig .tc := ⟨.hbm, 4221, rfl⟩
abbrev main_v2885 : Ref sig .tc := ⟨.hbm, 4222, rfl⟩
abbrev main_cst_867 : Ref sig .tc := ⟨.hbm, 4223, rfl⟩
abbrev main_v2886 : Ref sig .tc := ⟨.hbm, 4224, rfl⟩
abbrev main_v2887 : Ref sig .tc := ⟨.hbm, 4225, rfl⟩
abbrev main_v2888 : Ref sig .tc := ⟨.hbm, 4226, rfl⟩
abbrev main_v2889 : Ref sig .tc := ⟨.hbm, 4227, rfl⟩
abbrev main_v2890 : Ref sig .tc := ⟨.hbm, 4228, rfl⟩
abbrev main_v2891 : Ref sig .tc := ⟨.hbm, 4229, rfl⟩
abbrev main_v2892 : Ref sig .tc := ⟨.hbm, 4230, rfl⟩
abbrev main_c_868 : Ref sig .tc := ⟨.hbm, 4231, rfl⟩
abbrev main_c_869 : Ref sig .tc := ⟨.hbm, 4232, rfl⟩
abbrev main_call88_v0 : Ref sig .tc := ⟨.hbm, 4233, rfl⟩
abbrev main_call88_v1 : Ref sig .tc := ⟨.hbm, 4234, rfl⟩
abbrev main_call88_v2 : Ref sig .tc := ⟨.hbm, 4235, rfl⟩
abbrev main_call88_v3 : Ref sig .tc := ⟨.hbm, 4236, rfl⟩
abbrev main_call88_v4 : Ref sig .tc := ⟨.hbm, 4237, rfl⟩
abbrev main_v2893 : Ref sig .tc := ⟨.hbm, 4238, rfl⟩
abbrev main_c_870 : Ref sig .tc := ⟨.hbm, 4239, rfl⟩
abbrev main_v2894 : Ref sig .tc := ⟨.hbm, 4240, rfl⟩
abbrev main_v2895 : Ref sig .tc := ⟨.hbm, 4241, rfl⟩
abbrev main_c_871 : Ref sig .tc := ⟨.hbm, 4242, rfl⟩
abbrev main_c_872 : Ref sig .tc := ⟨.hbm, 4243, rfl⟩
abbrev main_call89_v0 : Ref sig .tc := ⟨.hbm, 4244, rfl⟩
abbrev main_call89_v1 : Ref sig .tc := ⟨.hbm, 4245, rfl⟩
abbrev main_call89_v2 : Ref sig .tc := ⟨.hbm, 4246, rfl⟩
abbrev main_call89_v3 : Ref sig .tc := ⟨.hbm, 4247, rfl⟩
abbrev main_call89_v4 : Ref sig .tc := ⟨.hbm, 4248, rfl⟩
abbrev main_v2896 : Ref sig .tc := ⟨.hbm, 4249, rfl⟩
abbrev main_v2897 : Ref sig .tc := ⟨.hbm, 4250, rfl⟩
abbrev main_c_873 : Ref sig .tc := ⟨.hbm, 4251, rfl⟩
abbrev main_c_874 : Ref sig .tc := ⟨.hbm, 4252, rfl⟩
abbrev main_call90_v0 : Ref sig .tc := ⟨.hbm, 4253, rfl⟩
abbrev main_call90_v1 : Ref sig .tc := ⟨.hbm, 4254, rfl⟩
abbrev main_call90_v2 : Ref sig .tc := ⟨.hbm, 4255, rfl⟩
abbrev main_call90_v3 : Ref sig .tc := ⟨.hbm, 4256, rfl⟩
abbrev main_call90_v4 : Ref sig .tc := ⟨.hbm, 4257, rfl⟩
abbrev main_v2898 : Ref sig .tc := ⟨.hbm, 4258, rfl⟩
abbrev main_c_875 : Ref sig .tc := ⟨.hbm, 4259, rfl⟩
abbrev main_v2899 : Ref sig .tc := ⟨.hbm, 4260, rfl⟩
abbrev main_v2900 : Ref sig .tc := ⟨.hbm, 4261, rfl⟩
abbrev main_c_876 : Ref sig .tc := ⟨.hbm, 4262, rfl⟩
abbrev main_c_877 : Ref sig .tc := ⟨.hbm, 4263, rfl⟩
abbrev main_call91_v0 : Ref sig .tc := ⟨.hbm, 4264, rfl⟩
abbrev main_call91_v1 : Ref sig .tc := ⟨.hbm, 4265, rfl⟩
abbrev main_call91_v2 : Ref sig .tc := ⟨.hbm, 4266, rfl⟩
abbrev main_call91_v3 : Ref sig .tc := ⟨.hbm, 4267, rfl⟩
abbrev main_call91_v4 : Ref sig .tc := ⟨.hbm, 4268, rfl⟩
abbrev main_v2901 : Ref sig .tc := ⟨.hbm, 4269, rfl⟩
abbrev main_c_878 : Ref sig .tc := ⟨.hbm, 4270, rfl⟩
abbrev main_v2902 : Ref sig .tc := ⟨.hbm, 4271, rfl⟩
abbrev main_v2903 : Ref sig .tc := ⟨.hbm, 4272, rfl⟩
abbrev main_c_879 : Ref sig .tc := ⟨.hbm, 4273, rfl⟩
abbrev main_v2904 : Ref sig .tc := ⟨.hbm, 4274, rfl⟩
abbrev main_v2905 : Ref sig .tc := ⟨.hbm, 4275, rfl⟩
abbrev main_v2906 : Ref sig .tc := ⟨.hbm, 4276, rfl⟩
abbrev main_c_880 : Ref sig .tc := ⟨.hbm, 4277, rfl⟩
abbrev main_v2907 : Ref sig .tc := ⟨.hbm, 4278, rfl⟩
abbrev main_v2908 : Ref sig .tc := ⟨.hbm, 4279, rfl⟩
abbrev main_c_881 : Ref sig .tc := ⟨.hbm, 4280, rfl⟩
abbrev main_v2909 : Ref sig .tc := ⟨.hbm, 4281, rfl⟩
abbrev main_v2910 : Ref sig .tc := ⟨.hbm, 4282, rfl⟩
abbrev main_v2911 : Ref sig .tc := ⟨.hbm, 4283, rfl⟩
abbrev main_v2912 : Ref sig .tc := ⟨.hbm, 4284, rfl⟩
abbrev main_v2913 : Ref sig .tc := ⟨.hbm, 4285, rfl⟩
abbrev main_v2914 : Ref sig .tc := ⟨.hbm, 4286, rfl⟩
abbrev main_v2915 : Ref sig .tc := ⟨.hbm, 4287, rfl⟩
abbrev main_c_882 : Ref sig .tc := ⟨.hbm, 4288, rfl⟩
abbrev main_v2916 : Ref sig .tc := ⟨.hbm, 4289, rfl⟩
abbrev main_v2917 : Ref sig .tc := ⟨.hbm, 4290, rfl⟩
abbrev main_c_883 : Ref sig .tc := ⟨.hbm, 4291, rfl⟩
abbrev main_v2918 : Ref sig .tc := ⟨.hbm, 4292, rfl⟩
abbrev main_v2919 : Ref sig .tc := ⟨.hbm, 4293, rfl⟩
abbrev main_v2920 : Ref sig .tc := ⟨.hbm, 4294, rfl⟩
abbrev main_c_884 : Ref sig .tc := ⟨.hbm, 4295, rfl⟩
abbrev main_v2921 : Ref sig .tc := ⟨.hbm, 4296, rfl⟩
abbrev main_v2922 : Ref sig .tc := ⟨.hbm, 4297, rfl⟩
abbrev main_c_885 : Ref sig .tc := ⟨.hbm, 4298, rfl⟩
abbrev main_v2923 : Ref sig .tc := ⟨.hbm, 4299, rfl⟩
abbrev main_v2924 : Ref sig .tc := ⟨.hbm, 4300, rfl⟩
abbrev main_v2925 : Ref sig .tc := ⟨.hbm, 4301, rfl⟩
abbrev main_v2926 : Ref sig .tc := ⟨.hbm, 4302, rfl⟩
abbrev main_v2927 : Ref sig .tc := ⟨.hbm, 4303, rfl⟩
abbrev main_v2928 : Ref sig .tc := ⟨.hbm, 4304, rfl⟩
abbrev main_v2929 : Ref sig .tc := ⟨.hbm, 4305, rfl⟩
abbrev main_c_886 : Ref sig .tc := ⟨.hbm, 4306, rfl⟩
abbrev main_v2930 : Ref sig .tc := ⟨.hbm, 4307, rfl⟩
abbrev main_v2931 : Ref sig .tc := ⟨.hbm, 4308, rfl⟩
abbrev main_c_887 : Ref sig .tc := ⟨.hbm, 4309, rfl⟩
abbrev main_v2932 : Ref sig .tc := ⟨.hbm, 4310, rfl⟩
abbrev main_v2933 : Ref sig .tc := ⟨.hbm, 4311, rfl⟩
abbrev main_v2934 : Ref sig .tc := ⟨.hbm, 4312, rfl⟩
abbrev main_c_888 : Ref sig .tc := ⟨.hbm, 4313, rfl⟩
abbrev main_v2935 : Ref sig .tc := ⟨.hbm, 4314, rfl⟩
abbrev main_v2936 : Ref sig .tc := ⟨.hbm, 4315, rfl⟩
abbrev main_c_889 : Ref sig .tc := ⟨.hbm, 4316, rfl⟩
abbrev main_v2937 : Ref sig .tc := ⟨.hbm, 4317, rfl⟩
abbrev main_v2938 : Ref sig .tc := ⟨.hbm, 4318, rfl⟩
abbrev main_v2939 : Ref sig .tc := ⟨.hbm, 4319, rfl⟩
abbrev main_v2940 : Ref sig .tc := ⟨.hbm, 4320, rfl⟩
abbrev main_v2941 : Ref sig .tc := ⟨.hbm, 4321, rfl⟩
abbrev main_v2942 : Ref sig .tc := ⟨.hbm, 4322, rfl⟩
abbrev main_v2943 : Ref sig .tc := ⟨.hbm, 4323, rfl⟩
abbrev main_c_890 : Ref sig .tc := ⟨.hbm, 4324, rfl⟩
abbrev main_v2944 : Ref sig .tc := ⟨.hbm, 4325, rfl⟩
abbrev main_v2945 : Ref sig .tc := ⟨.hbm, 4326, rfl⟩
abbrev main_c_891 : Ref sig .tc := ⟨.hbm, 4327, rfl⟩
abbrev main_v2946 : Ref sig .tc := ⟨.hbm, 4328, rfl⟩
abbrev main_v2947 : Ref sig .tc := ⟨.hbm, 4329, rfl⟩
abbrev main_v2948 : Ref sig .tc := ⟨.hbm, 4330, rfl⟩
abbrev main_c_892 : Ref sig .tc := ⟨.hbm, 4331, rfl⟩
abbrev main_v2949 : Ref sig .tc := ⟨.hbm, 4332, rfl⟩
abbrev main_v2950 : Ref sig .tc := ⟨.hbm, 4333, rfl⟩
abbrev main_c_893 : Ref sig .tc := ⟨.hbm, 4334, rfl⟩
abbrev main_v2951 : Ref sig .tc := ⟨.hbm, 4335, rfl⟩
abbrev main_v2952 : Ref sig .tc := ⟨.hbm, 4336, rfl⟩
abbrev main_v2953 : Ref sig .tc := ⟨.hbm, 4337, rfl⟩
abbrev main_v2954 : Ref sig .tc := ⟨.hbm, 4338, rfl⟩
abbrev main_v2955 : Ref sig .tc := ⟨.hbm, 4339, rfl⟩
abbrev main_v2956 : Ref sig .tc := ⟨.hbm, 4340, rfl⟩
abbrev main_v2957 : Ref sig .tc := ⟨.hbm, 4341, rfl⟩
abbrev main_cst_894 : Ref sig .tc := ⟨.hbm, 4342, rfl⟩
abbrev main_v2958 : Ref sig .tc := ⟨.hbm, 4343, rfl⟩
abbrev main_v2959 : Ref sig .tc := ⟨.hbm, 4344, rfl⟩
abbrev main_v2960 : Ref sig .tc := ⟨.hbm, 4345, rfl⟩
abbrev main_v2961 : Ref sig .tc := ⟨.hbm, 4346, rfl⟩
abbrev main_v2962 : Ref sig .tc := ⟨.hbm, 4347, rfl⟩
abbrev main_cst_895 : Ref sig .tc := ⟨.hbm, 4348, rfl⟩
abbrev main_v2963 : Ref sig .tc := ⟨.hbm, 4349, rfl⟩
abbrev main_v2964 : Ref sig .tc := ⟨.hbm, 4350, rfl⟩
abbrev main_v2965 : Ref sig .tc := ⟨.hbm, 4351, rfl⟩
abbrev main_v2966 : Ref sig .tc := ⟨.hbm, 4352, rfl⟩
abbrev main_v2967 : Ref sig .tc := ⟨.hbm, 4353, rfl⟩
abbrev main_v2968 : Ref sig .tc := ⟨.hbm, 4354, rfl⟩
abbrev main_v2969 : Ref sig .tc := ⟨.hbm, 4355, rfl⟩
abbrev main_v2970 : Ref sig .tc := ⟨.hbm, 4356, rfl⟩
abbrev main_cst_896 : Ref sig .tc := ⟨.hbm, 4357, rfl⟩
abbrev main_v2971 : Ref sig .tc := ⟨.hbm, 4358, rfl⟩
abbrev main_v2972 : Ref sig .tc := ⟨.hbm, 4359, rfl⟩
abbrev main_v2973 : Ref sig .tc := ⟨.hbm, 4360, rfl⟩
abbrev main_v2974 : Ref sig .tc := ⟨.hbm, 4361, rfl⟩
abbrev main_v2975 : Ref sig .tc := ⟨.hbm, 4362, rfl⟩
abbrev main_v2976 : Ref sig .tc := ⟨.hbm, 4363, rfl⟩
abbrev main_cst_897 : Ref sig .tc := ⟨.hbm, 4364, rfl⟩
abbrev main_v2977 : Ref sig .tc := ⟨.hbm, 4365, rfl⟩
abbrev main_v2978 : Ref sig .tc := ⟨.hbm, 4366, rfl⟩
abbrev main_v2979 : Ref sig .tc := ⟨.hbm, 4367, rfl⟩
abbrev main_v2980 : Ref sig .tc := ⟨.hbm, 4368, rfl⟩
abbrev main_v2981 : Ref sig .tc := ⟨.hbm, 4369, rfl⟩
abbrev main_v2982 : Ref sig .tc := ⟨.hbm, 4370, rfl⟩
abbrev main_v2983 : Ref sig .tc := ⟨.hbm, 4371, rfl⟩
abbrev main_v2984 : Ref sig .tc := ⟨.hbm, 4372, rfl⟩
abbrev main_v2985 : Ref sig .tc := ⟨.hbm, 4373, rfl⟩
abbrev main_v2986 : Ref sig .tc := ⟨.hbm, 4374, rfl⟩
abbrev main_v2987 : Ref sig .tc := ⟨.hbm, 4375, rfl⟩
abbrev main_v2988 : Ref sig .tc := ⟨.hbm, 4376, rfl⟩
abbrev main_v2989 : Ref sig .tc := ⟨.hbm, 4377, rfl⟩
abbrev main_v2990 : Ref sig .tc := ⟨.hbm, 4378, rfl⟩
abbrev main_v2991 : Ref sig .tc := ⟨.hbm, 4379, rfl⟩
abbrev main_v2992 : Ref sig .tc := ⟨.hbm, 4380, rfl⟩
abbrev main_v2993 : Ref sig .tc := ⟨.hbm, 4381, rfl⟩
abbrev main_v2994 : Ref sig .tc := ⟨.hbm, 4382, rfl⟩
abbrev main_c_898 : Ref sig .tc := ⟨.hbm, 4383, rfl⟩
abbrev main_v2995 : Ref sig .tc := ⟨.hbm, 4384, rfl⟩
abbrev main_v2996 : Ref sig .tc := ⟨.hbm, 4385, rfl⟩
abbrev main_c_899 : Ref sig .tc := ⟨.hbm, 4386, rfl⟩
abbrev main_v2997 : Ref sig .tc := ⟨.hbm, 4387, rfl⟩
abbrev main_v2998 : Ref sig .tc := ⟨.hbm, 4388, rfl⟩
abbrev main_v2999 : Ref sig .tc := ⟨.hbm, 4389, rfl⟩
abbrev main_v3000 : Ref sig .tc := ⟨.hbm, 4390, rfl⟩
abbrev main_v3001 : Ref sig .tc := ⟨.hbm, 4391, rfl⟩
abbrev main_v3002 : Ref sig .tc := ⟨.hbm, 4392, rfl⟩
abbrev main_v3003 : Ref sig .tc := ⟨.hbm, 4393, rfl⟩
abbrev main_cst_900 : Ref sig .tc := ⟨.hbm, 4394, rfl⟩
abbrev main_v3004 : Ref sig .tc := ⟨.hbm, 4395, rfl⟩
abbrev main_v3005 : Ref sig .tc := ⟨.hbm, 4396, rfl⟩
abbrev main_cst_901 : Ref sig .tc := ⟨.hbm, 4397, rfl⟩
abbrev main_v3006 : Ref sig .tc := ⟨.hbm, 4398, rfl⟩
abbrev main_v3007 : Ref sig .tc := ⟨.hbm, 4399, rfl⟩
abbrev main_cst_902 : Ref sig .tc := ⟨.hbm, 4400, rfl⟩
abbrev main_v3008 : Ref sig .tc := ⟨.hbm, 4401, rfl⟩
abbrev main_v3009 : Ref sig .tc := ⟨.hbm, 4402, rfl⟩
abbrev main_v3010 : Ref sig .tc := ⟨.hbm, 4403, rfl⟩
abbrev main_v3011 : Ref sig .tc := ⟨.hbm, 4404, rfl⟩
abbrev main_cst_903 : Ref sig .tc := ⟨.hbm, 4405, rfl⟩
abbrev main_v3012 : Ref sig .tc := ⟨.hbm, 4406, rfl⟩
abbrev main_v3013 : Ref sig .tc := ⟨.hbm, 4407, rfl⟩
abbrev main_cst_904 : Ref sig .tc := ⟨.hbm, 4408, rfl⟩
abbrev main_v3014 : Ref sig .tc := ⟨.hbm, 4409, rfl⟩
abbrev main_v3015 : Ref sig .tc := ⟨.hbm, 4410, rfl⟩
abbrev main_cst_905 : Ref sig .tc := ⟨.hbm, 4411, rfl⟩
abbrev main_v3016 : Ref sig .tc := ⟨.hbm, 4412, rfl⟩
abbrev main_v3017 : Ref sig .tc := ⟨.hbm, 4413, rfl⟩
abbrev main_v3018 : Ref sig .tc := ⟨.hbm, 4414, rfl⟩
abbrev main_v3019 : Ref sig .tc := ⟨.hbm, 4415, rfl⟩
abbrev main_v3020 : Ref sig .tc := ⟨.hbm, 4416, rfl⟩
abbrev main_v3021 : Ref sig .tc := ⟨.hbm, 4417, rfl⟩
abbrev main_v3022 : Ref sig .tc := ⟨.hbm, 4418, rfl⟩
abbrev main_c_906 : Ref sig .tc := ⟨.hbm, 4419, rfl⟩
abbrev main_c_907 : Ref sig .tc := ⟨.hbm, 4420, rfl⟩
abbrev main_call92_v0 : Ref sig .tc := ⟨.hbm, 4421, rfl⟩
abbrev main_call92_v1 : Ref sig .tc := ⟨.hbm, 4422, rfl⟩
abbrev main_call92_v2 : Ref sig .tc := ⟨.hbm, 4423, rfl⟩
abbrev main_call92_v3 : Ref sig .tc := ⟨.hbm, 4424, rfl⟩
abbrev main_call92_v4 : Ref sig .tc := ⟨.hbm, 4425, rfl⟩
abbrev main_v3023 : Ref sig .tc := ⟨.hbm, 4426, rfl⟩
abbrev main_c_908 : Ref sig .tc := ⟨.hbm, 4427, rfl⟩
abbrev main_v3024 : Ref sig .tc := ⟨.hbm, 4428, rfl⟩
abbrev main_v3025 : Ref sig .tc := ⟨.hbm, 4429, rfl⟩
abbrev main_c_909 : Ref sig .tc := ⟨.hbm, 4430, rfl⟩
abbrev main_c_910 : Ref sig .tc := ⟨.hbm, 4431, rfl⟩
abbrev main_call93_v0 : Ref sig .tc := ⟨.hbm, 4432, rfl⟩
abbrev main_call93_v1 : Ref sig .tc := ⟨.hbm, 4433, rfl⟩
abbrev main_call93_v2 : Ref sig .tc := ⟨.hbm, 4434, rfl⟩
abbrev main_call93_v3 : Ref sig .tc := ⟨.hbm, 4435, rfl⟩
abbrev main_call93_v4 : Ref sig .tc := ⟨.hbm, 4436, rfl⟩
abbrev main_v3026 : Ref sig .tc := ⟨.hbm, 4437, rfl⟩
abbrev main_v3027 : Ref sig .tc := ⟨.hbm, 4438, rfl⟩
abbrev main_c_911 : Ref sig .tc := ⟨.hbm, 4439, rfl⟩
abbrev main_c_912 : Ref sig .tc := ⟨.hbm, 4440, rfl⟩
abbrev main_call94_v0 : Ref sig .tc := ⟨.hbm, 4441, rfl⟩
abbrev main_call94_v1 : Ref sig .tc := ⟨.hbm, 4442, rfl⟩
abbrev main_call94_v2 : Ref sig .tc := ⟨.hbm, 4443, rfl⟩
abbrev main_call94_v3 : Ref sig .tc := ⟨.hbm, 4444, rfl⟩
abbrev main_call94_v4 : Ref sig .tc := ⟨.hbm, 4445, rfl⟩
abbrev main_v3028 : Ref sig .tc := ⟨.hbm, 4446, rfl⟩
abbrev main_c_913 : Ref sig .tc := ⟨.hbm, 4447, rfl⟩
abbrev main_v3029 : Ref sig .tc := ⟨.hbm, 4448, rfl⟩
abbrev main_v3030 : Ref sig .tc := ⟨.hbm, 4449, rfl⟩
abbrev main_c_914 : Ref sig .tc := ⟨.hbm, 4450, rfl⟩
abbrev main_c_915 : Ref sig .tc := ⟨.hbm, 4451, rfl⟩
abbrev main_call95_v0 : Ref sig .tc := ⟨.hbm, 4452, rfl⟩
abbrev main_call95_v1 : Ref sig .tc := ⟨.hbm, 4453, rfl⟩
abbrev main_call95_v2 : Ref sig .tc := ⟨.hbm, 4454, rfl⟩
abbrev main_call95_v3 : Ref sig .tc := ⟨.hbm, 4455, rfl⟩
abbrev main_call95_v4 : Ref sig .tc := ⟨.hbm, 4456, rfl⟩
abbrev main_v3031 : Ref sig .tc := ⟨.hbm, 4457, rfl⟩
abbrev main_c_916 : Ref sig .tc := ⟨.hbm, 4458, rfl⟩
abbrev main_v3032 : Ref sig .tc := ⟨.hbm, 4459, rfl⟩
abbrev main_v3033 : Ref sig .tc := ⟨.hbm, 4460, rfl⟩
abbrev main_c_917 : Ref sig .tc := ⟨.hbm, 4461, rfl⟩
abbrev main_v3034 : Ref sig .tc := ⟨.hbm, 4462, rfl⟩
abbrev main_v3035 : Ref sig .tc := ⟨.hbm, 4463, rfl⟩
abbrev main_v3036 : Ref sig .tc := ⟨.hbm, 4464, rfl⟩
abbrev main_c_918 : Ref sig .tc := ⟨.hbm, 4465, rfl⟩
abbrev main_v3037 : Ref sig .tc := ⟨.hbm, 4466, rfl⟩
abbrev main_v3038 : Ref sig .tc := ⟨.hbm, 4467, rfl⟩
abbrev main_c_919 : Ref sig .tc := ⟨.hbm, 4468, rfl⟩
abbrev main_v3039 : Ref sig .tc := ⟨.hbm, 4469, rfl⟩
abbrev main_v3040 : Ref sig .tc := ⟨.hbm, 4470, rfl⟩
abbrev main_v3041 : Ref sig .tc := ⟨.hbm, 4471, rfl⟩
abbrev main_v3042 : Ref sig .tc := ⟨.hbm, 4472, rfl⟩
abbrev main_v3043 : Ref sig .tc := ⟨.hbm, 4473, rfl⟩
abbrev main_v3044 : Ref sig .tc := ⟨.hbm, 4474, rfl⟩
abbrev main_v3045 : Ref sig .tc := ⟨.hbm, 4475, rfl⟩
abbrev main_c_920 : Ref sig .tc := ⟨.hbm, 4476, rfl⟩
abbrev main_v3046 : Ref sig .tc := ⟨.hbm, 4477, rfl⟩
abbrev main_v3047 : Ref sig .tc := ⟨.hbm, 4478, rfl⟩
abbrev main_c_921 : Ref sig .tc := ⟨.hbm, 4479, rfl⟩
abbrev main_v3048 : Ref sig .tc := ⟨.hbm, 4480, rfl⟩
abbrev main_v3049 : Ref sig .tc := ⟨.hbm, 4481, rfl⟩
abbrev main_v3050 : Ref sig .tc := ⟨.hbm, 4482, rfl⟩
abbrev main_c_922 : Ref sig .tc := ⟨.hbm, 4483, rfl⟩
abbrev main_v3051 : Ref sig .tc := ⟨.hbm, 4484, rfl⟩
abbrev main_v3052 : Ref sig .tc := ⟨.hbm, 4485, rfl⟩
abbrev main_c_923 : Ref sig .tc := ⟨.hbm, 4486, rfl⟩
abbrev main_v3053 : Ref sig .tc := ⟨.hbm, 4487, rfl⟩
abbrev main_v3054 : Ref sig .tc := ⟨.hbm, 4488, rfl⟩
abbrev main_v3055 : Ref sig .tc := ⟨.hbm, 4489, rfl⟩
abbrev main_v3056 : Ref sig .tc := ⟨.hbm, 4490, rfl⟩
abbrev main_v3057 : Ref sig .tc := ⟨.hbm, 4491, rfl⟩
abbrev main_v3058 : Ref sig .tc := ⟨.hbm, 4492, rfl⟩
abbrev main_v3059 : Ref sig .tc := ⟨.hbm, 4493, rfl⟩
abbrev main_c_924 : Ref sig .tc := ⟨.hbm, 4494, rfl⟩
abbrev main_v3060 : Ref sig .tc := ⟨.hbm, 4495, rfl⟩
abbrev main_v3061 : Ref sig .tc := ⟨.hbm, 4496, rfl⟩
abbrev main_c_925 : Ref sig .tc := ⟨.hbm, 4497, rfl⟩
abbrev main_v3062 : Ref sig .tc := ⟨.hbm, 4498, rfl⟩
abbrev main_v3063 : Ref sig .tc := ⟨.hbm, 4499, rfl⟩
abbrev main_v3064 : Ref sig .tc := ⟨.hbm, 4500, rfl⟩
abbrev main_c_926 : Ref sig .tc := ⟨.hbm, 4501, rfl⟩
abbrev main_v3065 : Ref sig .tc := ⟨.hbm, 4502, rfl⟩
abbrev main_v3066 : Ref sig .tc := ⟨.hbm, 4503, rfl⟩
abbrev main_c_927 : Ref sig .tc := ⟨.hbm, 4504, rfl⟩
abbrev main_v3067 : Ref sig .tc := ⟨.hbm, 4505, rfl⟩
abbrev main_v3068 : Ref sig .tc := ⟨.hbm, 4506, rfl⟩
abbrev main_v3069 : Ref sig .tc := ⟨.hbm, 4507, rfl⟩
abbrev main_v3070 : Ref sig .tc := ⟨.hbm, 4508, rfl⟩
abbrev main_v3071 : Ref sig .tc := ⟨.hbm, 4509, rfl⟩
abbrev main_v3072 : Ref sig .tc := ⟨.hbm, 4510, rfl⟩
abbrev main_v3073 : Ref sig .tc := ⟨.hbm, 4511, rfl⟩
abbrev main_c_928 : Ref sig .tc := ⟨.hbm, 4512, rfl⟩
abbrev main_v3074 : Ref sig .tc := ⟨.hbm, 4513, rfl⟩
abbrev main_v3075 : Ref sig .tc := ⟨.hbm, 4514, rfl⟩
abbrev main_c_929 : Ref sig .tc := ⟨.hbm, 4515, rfl⟩
abbrev main_v3076 : Ref sig .tc := ⟨.hbm, 4516, rfl⟩
abbrev main_v3077 : Ref sig .tc := ⟨.hbm, 4517, rfl⟩
abbrev main_v3078 : Ref sig .tc := ⟨.hbm, 4518, rfl⟩
abbrev main_c_930 : Ref sig .tc := ⟨.hbm, 4519, rfl⟩
abbrev main_v3079 : Ref sig .tc := ⟨.hbm, 4520, rfl⟩
abbrev main_v3080 : Ref sig .tc := ⟨.hbm, 4521, rfl⟩
abbrev main_c_931 : Ref sig .tc := ⟨.hbm, 4522, rfl⟩
abbrev main_v3081 : Ref sig .tc := ⟨.hbm, 4523, rfl⟩
abbrev main_v3082 : Ref sig .tc := ⟨.hbm, 4524, rfl⟩
abbrev main_v3083 : Ref sig .tc := ⟨.hbm, 4525, rfl⟩
abbrev main_v3084 : Ref sig .tc := ⟨.hbm, 4526, rfl⟩
abbrev main_v3085 : Ref sig .tc := ⟨.hbm, 4527, rfl⟩
abbrev main_v3086 : Ref sig .tc := ⟨.hbm, 4528, rfl⟩
abbrev main_v3087 : Ref sig .tc := ⟨.hbm, 4529, rfl⟩
abbrev main_cst_932 : Ref sig .tc := ⟨.hbm, 4530, rfl⟩
abbrev main_v3088 : Ref sig .tc := ⟨.hbm, 4531, rfl⟩
abbrev main_v3089 : Ref sig .tc := ⟨.hbm, 4532, rfl⟩
abbrev main_v3090 : Ref sig .tc := ⟨.hbm, 4533, rfl⟩
abbrev main_v3091 : Ref sig .tc := ⟨.hbm, 4534, rfl⟩
abbrev main_v3092 : Ref sig .tc := ⟨.hbm, 4535, rfl⟩
abbrev main_cst_933 : Ref sig .tc := ⟨.hbm, 4536, rfl⟩
abbrev main_v3093 : Ref sig .tc := ⟨.hbm, 4537, rfl⟩
abbrev main_v3094 : Ref sig .tc := ⟨.hbm, 4538, rfl⟩
abbrev main_v3095 : Ref sig .tc := ⟨.hbm, 4539, rfl⟩
abbrev main_v3096 : Ref sig .tc := ⟨.hbm, 4540, rfl⟩
abbrev main_v3097 : Ref sig .tc := ⟨.hbm, 4541, rfl⟩
abbrev main_v3098 : Ref sig .tc := ⟨.hbm, 4542, rfl⟩
abbrev main_v3099 : Ref sig .tc := ⟨.hbm, 4543, rfl⟩
abbrev main_v3100 : Ref sig .tc := ⟨.hbm, 4544, rfl⟩
abbrev main_cst_934 : Ref sig .tc := ⟨.hbm, 4545, rfl⟩
abbrev main_v3101 : Ref sig .tc := ⟨.hbm, 4546, rfl⟩
abbrev main_v3102 : Ref sig .tc := ⟨.hbm, 4547, rfl⟩
abbrev main_v3103 : Ref sig .tc := ⟨.hbm, 4548, rfl⟩
abbrev main_v3104 : Ref sig .tc := ⟨.hbm, 4549, rfl⟩
abbrev main_v3105 : Ref sig .tc := ⟨.hbm, 4550, rfl⟩
abbrev main_v3106 : Ref sig .tc := ⟨.hbm, 4551, rfl⟩
abbrev main_cst_935 : Ref sig .tc := ⟨.hbm, 4552, rfl⟩
abbrev main_v3107 : Ref sig .tc := ⟨.hbm, 4553, rfl⟩
abbrev main_v3108 : Ref sig .tc := ⟨.hbm, 4554, rfl⟩
abbrev main_v3109 : Ref sig .tc := ⟨.hbm, 4555, rfl⟩
abbrev main_v3110 : Ref sig .tc := ⟨.hbm, 4556, rfl⟩
abbrev main_v3111 : Ref sig .tc := ⟨.hbm, 4557, rfl⟩
abbrev main_v3112 : Ref sig .tc := ⟨.hbm, 4558, rfl⟩
abbrev main_v3113 : Ref sig .tc := ⟨.hbm, 4559, rfl⟩
abbrev main_v3114 : Ref sig .tc := ⟨.hbm, 4560, rfl⟩
abbrev main_v3115 : Ref sig .tc := ⟨.hbm, 4561, rfl⟩
abbrev main_v3116 : Ref sig .tc := ⟨.hbm, 4562, rfl⟩
abbrev main_v3117 : Ref sig .tc := ⟨.hbm, 4563, rfl⟩
abbrev main_v3118 : Ref sig .tc := ⟨.hbm, 4564, rfl⟩
abbrev main_v3119 : Ref sig .tc := ⟨.hbm, 4565, rfl⟩
abbrev main_v3120 : Ref sig .tc := ⟨.hbm, 4566, rfl⟩
abbrev main_v3121 : Ref sig .tc := ⟨.hbm, 4567, rfl⟩
abbrev main_v3122 : Ref sig .tc := ⟨.hbm, 4568, rfl⟩
abbrev main_v3123 : Ref sig .tc := ⟨.hbm, 4569, rfl⟩
abbrev main_v3124 : Ref sig .tc := ⟨.hbm, 4570, rfl⟩
abbrev main_v3125 : Ref sig .tc := ⟨.hbm, 4571, rfl⟩
abbrev main_v3126 : Ref sig .tc := ⟨.hbm, 4572, rfl⟩
abbrev main_call96_cst : Ref sig .tc := ⟨.hbm, 4573, rfl⟩
abbrev main_call96_v0 : Ref sig .tc := ⟨.hbm, 4574, rfl⟩
abbrev main_v3127 : Ref sig .tc := ⟨.hbm, 4575, rfl⟩
abbrev main_v3128 : Ref sig .tc := ⟨.hbm, 4576, rfl⟩
abbrev main_v3129 : Ref sig .tc := ⟨.hbm, 4577, rfl⟩
abbrev main_v3130 : Ref sig .tc := ⟨.hbm, 4578, rfl⟩
abbrev main_v3131 : Ref sig .tc := ⟨.hbm, 4579, rfl⟩
abbrev main_v3132 : Ref sig .tc := ⟨.hbm, 4580, rfl⟩

abbrev nD : Nat := 1
abbrev τ : Topo := Topo.v7x

variable {F : FTy → Type} [FloatOps F]

class Facts₀ : Prop where
  bcast_S_S4096x32x3 : S_.BroadcastsInDim S4096x32x3 (![] : Fin 0 → Fin S4096x32x3.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x3_S4096x32x1_S4096x32x4_d2 : Shape.Concatenates [S4096x32x3, S4096x32x1] S4096x32x4 2
  shapeCasts_S4096x32x4_S131072x4 : S4096x32x4.ShapeCasts S131072x4
  bcast_S_S2 : S_.BroadcastsInDim S2 (![] : Fin 0 → Fin S2.rank)
  bcast_S2_S2x1_0 : S2.BroadcastsInDim S2x1 (![0] : Fin 1 → Fin S2x1.rank)
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  slices_S131072x2_S131072x1_0_1 : S131072x2.Slices ![0, 1] S131072x1
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S131072_S1x131072_1 : S131072.BroadcastsInDim S1x131072 (![1] : Fin 1 → Fin S1x131072.rank)
  bcast_S1x131072_S32x131072_0_1 : S1x131072.BroadcastsInDim S32x131072 (![0, 1] : Fin 2 → Fin S32x131072.rank)
  transposes_S32x131072_S131072x32_1_0 : S32x131072.Transposes [1, 0] S131072x32
  concatenates_S131072x32_S131072x32_S131072x32_S131072x32_S131072x128_d1 : Shape.Concatenates [S131072x32, S131072x32, S131072x32, S131072x32] S131072x128 1
  bcast_S_S131072x64 : S_.BroadcastsInDim S131072x64 (![] : Fin 0 → Fin S131072x64.rank)
  slices_S131072x16_S131072x15_0_0 : S131072x16.Slices ![0, 0] S131072x15
  slices_S131072x16_S131072x1_0_15 : S131072x16.Slices ![0, 15] S131072x1
  concatenates_S131072x1_S131072x15_S131072x16_d1 : Shape.Concatenates [S131072x1, S131072x15] S131072x16 1
  gather_S131072x4_S2x1_S131072x2_0_1_n_n_1_1_1310721_wf : GatherDims.WF S131072x4 S2x1 S131072x2 [0] [1] [] [1] [] 1 ![131072, 1]
  gather_S32x64x64_S131072x2_S32x131072_0_12_n_n_12_1_3211_wf : GatherDims.WF S32x64x64 S131072x2 S32x131072 [0] [1, 2] [] [1, 2] [] 1 ![32, 1, 1]
  gather_S32x150x64_S131072x2_S32x131072_0_12_n_n_12_1_3211_wf : GatherDims.WF S32x150x64 S131072x2 S32x131072 [0] [1, 2] [] [1, 2] [] 1 ![32, 1, 1]
  gather_S32x128x128_S131072x2_S32x131072_0_12_n_n_12_1_3211_wf : GatherDims.WF S32x128x128 S131072x2 S32x131072 [0] [1, 2] [] [1, 2] [] 1 ![32, 1, 1]
  gather_S32x150x128_S131072x2_S32x131072_0_12_n_n_12_1_3211_wf : GatherDims.WF S32x150x128 S131072x2 S32x131072 [0] [1, 2] [] [1, 2] [] 1 ![32, 1, 1]
  gather_S32x256x256_S131072x2_S32x131072_0_12_n_n_12_1_3211_wf : GatherDims.WF S32x256x256 S131072x2 S32x131072 [0] [1, 2] [] [1, 2] [] 1 ![32, 1, 1]
  gather_S32x150x256_S131072x2_S32x131072_0_12_n_n_12_1_3211_wf : GatherDims.WF S32x150x256 S131072x2 S32x131072 [0] [1, 2] [] [1, 2] [] 1 ![32, 1, 1]
  gather_S32x512x512_S131072x2_S32x131072_0_12_n_n_12_1_3211_wf : GatherDims.WF S32x512x512 S131072x2 S32x131072 [0] [1, 2] [] [1, 2] [] 1 ![32, 1, 1]
  gather_S32x150x512_S131072x2_S32x131072_0_12_n_n_12_1_3211_wf : GatherDims.WF S32x150x512 S131072x2 S32x131072 [0] [1, 2] [] [1, 2] [] 1 ![32, 1, 1]
  dot_S131072x128_S128x64_S131072x64_1_0_0_1_n_n_wf : DotDims.WF S131072x128 S128x64 S131072x64 [1] [0] [0] [1] [] []
  dot_S131072x64_S64x16_S131072x16_1_0_0_1_n_n_wf : DotDims.WF S131072x64 S64x16 S131072x16 [1] [0] [0] [1] [] []

variable [Facts₀]

def gather_S131072x4_S2x1_S131072x2_0_1_n_n_1_1_1310721 : GatherDims S131072x4 S2x1 S131072x2 where
  offsetDims := [0]
  collapsedSliceDims := [1]
  operandBatchingDims := []
  startIndicesBatchingDims := []
  startIndexMap := [1]
  indexVectorDim := 1
  sliceSizes := ![131072, 1]
  wf := gather_S131072x4_S2x1_S131072x2_0_1_n_n_1_1_1310721_wf
def gather_S32x64x64_S131072x2_S32x131072_0_12_n_n_12_1_3211 : GatherDims S32x64x64 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x64x64_S131072x2_S32x131072_0_12_n_n_12_1_3211_wf
def gather_S32x150x64_S131072x2_S32x131072_0_12_n_n_12_1_3211 : GatherDims S32x150x64 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x64_S131072x2_S32x131072_0_12_n_n_12_1_3211_wf
def gather_S32x128x128_S131072x2_S32x131072_0_12_n_n_12_1_3211 : GatherDims S32x128x128 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x128x128_S131072x2_S32x131072_0_12_n_n_12_1_3211_wf
def gather_S32x150x128_S131072x2_S32x131072_0_12_n_n_12_1_3211 : GatherDims S32x150x128 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x128_S131072x2_S32x131072_0_12_n_n_12_1_3211_wf
def gather_S32x256x256_S131072x2_S32x131072_0_12_n_n_12_1_3211 : GatherDims S32x256x256 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x256x256_S131072x2_S32x131072_0_12_n_n_12_1_3211_wf
def gather_S32x150x256_S131072x2_S32x131072_0_12_n_n_12_1_3211 : GatherDims S32x150x256 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x256_S131072x2_S32x131072_0_12_n_n_12_1_3211_wf
def gather_S32x512x512_S131072x2_S32x131072_0_12_n_n_12_1_3211 : GatherDims S32x512x512 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x512x512_S131072x2_S32x131072_0_12_n_n_12_1_3211_wf
def gather_S32x150x512_S131072x2_S32x131072_0_12_n_n_12_1_3211 : GatherDims S32x150x512 S131072x2 S32x131072 where
  offsetDims := [0]
  collapsedSliceDims := [1, 2]
  operandBatchingDims := []
  startIndicesBatchingDims := []
  startIndexMap := [1, 2]
  indexVectorDim := 1
  sliceSizes := ![32, 1, 1]
  wf := gather_S32x150x512_S131072x2_S32x131072_0_12_n_n_12_1_3211_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x16_S131072x16_1_0_0_1_n_n : DotDims S131072x64 S64x16 S131072x16 where
  lhsContracting := [1]
  rhsContracting := [0]
  lhsNonContracting := [0]
  rhsNonContracting := [1]
  lhsBatch := []
  rhsBatch := []
  wf := dot_S131072x64_S64x16_S131072x16_1_0_0_1_n_n_wf

class Facts : Prop extends Facts₀ where

variable [Facts]
-- ==== Proof.HostFold.lean ====
/-
  Folds of host operations: what a buffer holds after a line of operations, when the line is cut into pieces.

  A line of host operations rewrites, one after the other, the buffers they write. Every operation of the programs here
  writes exactly one buffer, introduced by that operation, and the buffers are indexed in program order: so a piece of
  the line "writes from `lo` up" when every buffer it writes has index at least `lo`, and a buffer of smaller index
  keeps its contents across the piece. Running two pieces one after the other is running their concatenation.
-/
import Idealize.ShloMosaic.Lib.StableHlo.Run

noncomputable section

namespace Cert.HostFold

open Idealize.ShloMosaic Idealize.ShloMosaic.StableHlo Idealize.SL.Sem

variable {τ : Topo} {sig : RefSig} {Val : EltTy → Type}

/-- Every buffer the operation writes is a TensorCore buffer of index at least `lo`. -/
def WritesFrom (lo : Nat) (op : HloOp τ sig Val) : Prop :=
  ∀ b ∈ op.writes, ∃ y : Ref sig .tc, b = Proc.devRef .tc y ∧ lo ≤ y.idx.val

/-- An operation whose one written buffer has index at least `lo` writes from `lo` up. -/
theorem writesFrom_single {lo : Nat} {op : HloOp τ sig Val} {y : Ref sig .tc}
    (h : op.writes = {Proc.devRef .tc y}) (hy : lo ≤ y.idx.val) : WritesFrom lo op := by
  intro b hb
  rw [h, Finset.mem_singleton] at hb
  exact ⟨y, hb, hy⟩

/-- Writing from a higher bound is writing from any lower one. -/
theorem WritesFrom.mono {lo lo' : Nat} {op : HloOp τ sig Val} (h : WritesFrom lo' op) (hle : lo ≤ lo') : WritesFrom lo op :=
  fun b hb => let ⟨y, e, hy⟩ := h b hb; ⟨y, e, hle.trans hy⟩

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem forall_imp {α : Type} {p q : α → Prop} {l : List α} (h : l.Forall p) (hpq : ∀ x, p x → q x) : l.Forall q :=
  List.forall_iff_forall_mem.mpr fun x hx => hpq x (List.forall_iff_forall_mem.mp h x hx)

/-- A piece that writes from `lo'` up writes from any `lo ≤ lo'` up. -/
theorem from_mono {lo lo' : Nat} {l : List (HloOp τ sig Val)} (h : l.Forall (WritesFrom lo')) (hle : lo ≤ lo') :
    l.Forall (WritesFrom lo) := forall_imp h fun _ hx => hx.mono hle

/-- Two pieces run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer of index below `lo` keeps its contents across a piece that writes from `lo` up. -/
theorem after_keeps {lo : Nat} (ops : List (HloOp τ sig Val)) (V : Valuation τ sig Val) (h : ops.Forall (WritesFrom lo))
    (r : Ref sig .tc) (hr : r.idx.val < lo) : after ops V (Proc.devRef .tc r) = V (Proc.devRef .tc r) :=
  after_of_forall_not_mem ops V fun op hop hb => by
    obtain ⟨y, e, hy⟩ := (List.forall_iff_forall_mem.mp h) op hop _ hb
    have hry : r = y := Proc.devRef_injective _ e
    subst hry
    omega

end Cert.HostFold

end
-- ==== Proof.HostChain.lean ====
/-
  Lines of host operations in single-assignment form, and what their final contents satisfy.

  Every host operation of the programs here writes ONE buffer that no earlier operation wrote, the buffers being numbered
  in program order, and reads only buffers of smaller numbers; what it writes is a function of what it reads. For such a
  line the contents after the whole line are a solution of the line's own equations: at the buffer an operation writes, the
  final contents are the operation's function of the FINAL contents of the buffers it reads — nothing later overwrites
  either. Two lines with the same functions, over inputs that agree, therefore agree buffer by buffer, one equation at a
  time: that is congruence of function application and needs nothing about what the functions compute.
-/
import proofs.«133805_j10187662426200_2_alg».proof.Proof.HostFold

noncomputable section

namespace Cert.HostFold

open Idealize.ShloMosaic Idealize.ShloMosaic.StableHlo Idealize.SL.Sem

variable {τ : Topo} {sig : RefSig} {Val : EltTy → Type}

/-- What the operation writes is decided by the contents of the buffers it reads. -/
def ReadsDet (op : HloOp τ sig Val) : Prop :=
  ∀ F G : Valuation τ sig Val, (∀ b ∈ op.bufs, b ∉ op.writes → F b = G b) → ∀ b ∈ op.writes, op.result F b = op.result G b

/-- The operation writes exactly buffer number `n`, reads only buffers of smaller numbers, and those decide what it writes. -/
structure StepAt (n : Nat) (op : HloOp τ sig Val) : Prop where
  writes : ∃ y : Ref sig .tc, op.writes = {Proc.devRef .tc y} ∧ y.idx.val = n
  reads : ∀ b ∈ op.bufs, b ∉ op.writes → ∃ x : Ref sig .tc, b = Proc.devRef .tc x ∧ x.idx.val < n
  det : ReadsDet op

/-- A line whose operations write buffers `n`, `n + 1`, … in order, each reading only earlier buffers. -/
def Chain : Nat → List (HloOp τ sig Val) → Prop
  | _, [] => True
  | n, op :: ops => StepAt n op ∧ Chain (n + 1) ops

theorem Chain.nil {n : Nat} : Chain n ([] : List (HloOp τ sig Val)) := trivial
theorem Chain.cons {n : Nat} {op : HloOp τ sig Val} {ops : List (HloOp τ sig Val)} (h : StepAt n op) (t : Chain (n + 1) ops) :
    Chain n (op :: ops) := ⟨h, t⟩

theorem StepAt.writesFrom {n : Nat} {op : HloOp τ sig Val} (h : StepAt n op) : WritesFrom n op := by
  obtain ⟨y, hw, hy⟩ := h.writes
  exact writesFrom_single hw (le_of_eq hy.symm)

theorem Chain.from {n : Nat} {ops : List (HloOp τ sig Val)} (h : Chain n ops) : ops.Forall (WritesFrom n) := by
  induction ops generalizing n with
  | nil => exact trivial
  | cons op ops ih =>
    refine List.forall_iff_forall_mem.mpr fun o ho => ?_
    rcases List.mem_cons.mp ho with rfl | ho
    · exact h.1.writesFrom
    · exact (List.forall_iff_forall_mem.mp (ih h.2) o ho).mono (Nat.le_succ n)

/-- Two such lines, the second starting where the first ends, are one such line. -/
theorem Chain.append {n : Nat} {l₁ l₂ : List (HloOp τ sig Val)} (h₁ : Chain n l₁) (h₂ : Chain (n + l₁.length) l₂) :
    Chain n (l₁ ++ l₂) := by
  induction l₁ generalizing n with
  | nil => simpa using h₂
  | cons op l ih =>
    refine ⟨h₁.1, ih h₁.2 ?_⟩
    have e : n + 1 + l.length = n + (op :: l).length := by simp only [List.length_cons]; omega
    rw [e]; exact h₂

/-- The same with the numbers spelt out: the first line has `k` operations and the second starts at `m = n + k`. -/
theorem Chain.append' {n k m : Nat} {l₁ l₂ : List (HloOp τ sig Val)} (h₁ : Chain n l₁) (hl : l₁.length = k) (hm : n + k = m)
    (h₂ : Chain m l₂) : Chain n (l₁ ++ l₂) :=
  h₁.append (by rw [hl, hm]; exact h₂)

/-- THE FIXED POINT. After a single-assignment line the final contents satisfy every operation's own equation: at the
    buffer an operation writes they are the operation's value on the final contents. -/
theorem Chain.fixed {n : Nat} {ops : List (HloOp τ sig Val)} (h : Chain n ops) (V : Valuation τ sig Val) :
    ops.Forall fun op => ∀ b ∈ op.writes, after ops V b = op.result (after ops V) b := by
  induction ops generalizing n V with
  | nil => exact trivial
  | cons op rest ih =>
    obtain ⟨hs, hc⟩ := h
    refine List.forall_iff_forall_mem.mpr fun o ho => ?_
    rcases List.mem_cons.mp ho with rfl | ho
    · intro b hb
      obtain ⟨y, hw, hy⟩ := hs.writes
      have hby : b = Proc.devRef .tc y := by rw [hw, Finset.mem_singleton] at hb; exact hb
      have keep : ∀ r : Ref sig .tc, r.idx.val ≤ n → after rest (o.result V) (Proc.devRef .tc r) = o.result V (Proc.devRef .tc r) :=
        fun r hr => after_keeps rest _ hc.from r (Nat.lt_succ_of_le hr)
      show after rest (o.result V) b = o.result (after rest (o.result V)) b
      have h1 : after rest (o.result V) b = o.result V b := by rw [hby]; exact keep y (le_of_eq hy)
      have h2 : o.result (after rest (o.result V)) b = o.result V b := by
        refine hs.det _ _ (fun b' hb' hnw => ?_) b hb
        obtain ⟨x, hx, hlt⟩ := hs.reads b' hb' hnw
        rw [hx, keep x (Nat.le_of_lt hlt), ← hx, o.result_of_not_mem V hnw]
      rw [h1, h2]
    · exact List.forall_iff_forall_mem.mp (ih hc (op.result V)) o ho

/-- The equations of a piece of a line hold of the whole line's final contents. -/
theorem fixed_of_mem {P : HloOp τ sig Val → Prop} {segs : List (List (HloOp τ sig Val))} (h : segs.flatten.Forall P)
    {seg : List (HloOp τ sig Val)} (hs : seg ∈ segs) : seg.Forall P :=
  List.forall_iff_forall_mem.mpr fun o ho => List.forall_iff_forall_mem.mp h o (List.mem_flatten.mpr ⟨seg, hs, ho⟩)

/-! ## The builders: each writes its result buffer, reads its operands, and is decided by them -/

section Builders

variable {x a b c y : Ref sig .tc}

private theorem ne_of_lt {x y : Ref sig .tc} {n : Nat} (hy : y.idx.val = n) (hx : x.idx.val < n) :
    (Proc.devRef .tc x : DevRef τ sig) ≠ Proc.devRef .tc y :=
  devRef_ne_of_ne (fun e => by subst e; omega)

theorem stepAt_nullary (n : Nat) (v : y.ty.Contents Val) (hy) (hn : y.idx.val = n) : StepAt n (nullary (τ := τ) y v hy) where
  writes := ⟨y, rfl, hn⟩
  reads := fun b' hb' hnw => absurd hb' (by rw [nullary_bufs]; exact fun h => hnw (by rw [nullary_writes]; exact h))
  det := fun F G _ b' hb' => by
    rw [nullary_writes, Finset.mem_singleton] at hb'; subst hb'
    rw [nullary_result, nullary_result]

theorem stepAt_unary (n : Nat) (f : x.ty.Contents Val → y.ty.Contents Val) (hx hy) (hn : y.idx.val = n) (h1 : x.idx.val < n) :
    StepAt n (unary (τ := τ) x y f hx hy) where
  writes := ⟨y, rfl, hn⟩
  reads := fun b' hb' hnw => by
    rw [unary_bufs, Finset.mem_insert, Finset.mem_singleton] at hb'
    rw [unary_writes, Finset.mem_singleton] at hnw
    rcases hb' with rfl | rfl
    · exact ⟨x, rfl, h1⟩
    · exact absurd rfl hnw
  det := fun F G h b' hb' => by
    rw [unary_writes, Finset.mem_singleton] at hb'; subst hb'
    have hxn : (Proc.devRef .tc x : DevRef τ sig) ∉ (unary (τ := τ) (Val := Val) x y f hx hy).writes := by
      rw [unary_writes, Finset.mem_singleton]; exact ne_of_lt hn h1
    rw [unary_result, unary_result, h _ (by rw [unary_bufs]; exact Finset.mem_insert_self _ _) hxn]

theorem stepAt_reshape (n : Nat) (he hnn hx hy) (hn : y.idx.val = n) (h1 : x.idx.val < n) :
    StepAt n (reshape (τ := τ) (Val := Val) x y he hnn hx hy) where
  writes := ⟨y, rfl, hn⟩
  reads := fun b' hb' hnw => by
    rw [reshape_bufs, Finset.mem_insert, Finset.mem_singleton] at hb'
    rw [reshape_writes, Finset.mem_singleton] at hnw
    rcases hb' with rfl | rfl
    · exact ⟨x, rfl, h1⟩
    · exact absurd rfl hnw
  det := fun F G h b' hb' => by
    rw [reshape_writes, Finset.mem_singleton] at hb'; subst hb'
    have hxn : (Proc.devRef .tc x : DevRef τ sig) ∉ (reshape (τ := τ) (Val := Val) x y he hnn hx hy).writes := by
      rw [reshape_writes, Finset.mem_singleton]; exact ne_of_lt hn h1
    rw [reshape_result, reshape_result, h _ (by rw [reshape_bufs]; exact Finset.mem_insert_self _ _) hxn]

theorem stepAt_binary (n : Nat) (f : a.ty.Contents Val → b.ty.Contents Val → y.ty.Contents Val) (ha hb hy) (hn : y.idx.val = n)
    (h1 : a.idx.val < n) (h2 : b.idx.val < n) : StepAt n (binary (τ := τ) a b y f ha hb hy) where
  writes := ⟨y, rfl, hn⟩
  reads := fun b' hb' hnw => by
    rw [binary_bufs, Finset.mem_insert, Finset.mem_insert, Finset.mem_singleton] at hb'
    rw [binary_writes, Finset.mem_singleton] at hnw
    rcases hb' with rfl | rfl | rfl
    · exact ⟨a, rfl, h1⟩
    · exact ⟨b, rfl, h2⟩
    · exact absurd rfl hnw
  det := fun F G h b' hb' => by
    rw [binary_writes, Finset.mem_singleton] at hb'; subst hb'
    have han : (Proc.devRef .tc a : DevRef τ sig) ∉ (binary (τ := τ) (Val := Val) a b y f ha hb hy).writes := by
      rw [binary_writes, Finset.mem_singleton]; exact ne_of_lt hn h1
    have hbn : (Proc.devRef .tc b : DevRef τ sig) ∉ (binary (τ := τ) (Val := Val) a b y f ha hb hy).writes := by
      rw [binary_writes, Finset.mem_singleton]; exact ne_of_lt hn h2
    rw [binary_result, binary_result, h _ (by rw [binary_bufs]; exact Finset.mem_insert_self _ _) han,
      h _ (by rw [binary_bufs]; exact Finset.mem_insert_of_mem (Finset.mem_insert_self _ _)) hbn]

theorem stepAt_ternary (n : Nat) (f : c.ty.Contents Val → a.ty.Contents Val → b.ty.Contents Val → y.ty.Contents Val) (hc ha hb hy)
    (hn : y.idx.val = n) (h0 : c.idx.val < n) (h1 : a.idx.val < n) (h2 : b.idx.val < n) :
    StepAt n (ternary (τ := τ) c a b y f hc ha hb hy) where
  writes := ⟨y, rfl, hn⟩
  reads := fun b' hb' hnw => by
    rw [ternary_bufs, Finset.mem_insert, Finset.mem_insert, Finset.mem_insert, Finset.mem_singleton] at hb'
    rw [ternary_writes, Finset.mem_singleton] at hnw
    rcases hb' with rfl | rfl | rfl | rfl
    · exact ⟨c, rfl, h0⟩
    · exact ⟨a, rfl, h1⟩
    · exact ⟨b, rfl, h2⟩
    · exact absurd rfl hnw
  det := fun F G h b' hb' => by
    rw [ternary_writes, Finset.mem_singleton] at hb'; subst hb'
    have hcn : (Proc.devRef .tc c : DevRef τ sig) ∉ (ternary (τ := τ) (Val := Val) c a b y f hc ha hb hy).writes := by
      rw [ternary_writes, Finset.mem_singleton]; exact ne_of_lt hn h0
    have han : (Proc.devRef .tc a : DevRef τ sig) ∉ (ternary (τ := τ) (Val := Val) c a b y f hc ha hb hy).writes := by
      rw [ternary_writes, Finset.mem_singleton]; exact ne_of_lt hn h1
    have hbn : (Proc.devRef .tc b : DevRef τ sig) ∉ (ternary (τ := τ) (Val := Val) c a b y f hc ha hb hy).writes := by
      rw [ternary_writes, Finset.mem_singleton]; exact ne_of_lt hn h2
    rw [ternary_result, ternary_result, h _ (by rw [ternary_bufs]; exact Finset.mem_insert_self _ _) hcn,
      h _ (by rw [ternary_bufs]; exact Finset.mem_insert_of_mem (Finset.mem_insert_self _ _)) han,
      h _ (by rw [ternary_bufs]; exact Finset.mem_insert_of_mem (Finset.mem_insert_of_mem (Finset.mem_insert_self _ _))) hbn]

theorem stepAt_nary (n : Nat) {k : Nat} (xs : Fin k → Ref sig .tc)
    (f : ((i : Fin k) → (xs i).ty.Contents Val) → y.ty.Contents Val) (hxs hy) (hn : y.idx.val = n) (h1 : ∀ i, (xs i).idx.val < n) :
    StepAt n (nary (τ := τ) xs y f hxs hy) where
  writes := ⟨y, rfl, hn⟩
  reads := fun b' hb' hnw => by
    have hb'' : b' ∈ insert (Proc.devRef .tc y : DevRef τ sig) (Finset.univ.image fun i => (Proc.devRef .tc (xs i) : DevRef τ sig)) := hb'
    rw [Finset.mem_insert, Finset.mem_image] at hb''
    rw [nary_writes, Finset.mem_singleton] at hnw
    rename' hb'' => hb'2
    rcases hb'2 with rfl | ⟨i, _, rfl⟩
    · exact absurd rfl hnw
    · exact ⟨xs i, rfl, h1 i⟩
  det := fun F G h b' hb' => by
    rw [nary_writes, Finset.mem_singleton] at hb'; subst hb'
    rw [nary_result, nary_result]
    congr 1
    funext i
    refine h _ (show (Proc.devRef .tc (xs i) : DevRef τ sig) ∈ insert (Proc.devRef .tc y : DevRef τ sig) (Finset.univ.image fun i => (Proc.devRef .tc (xs i) : DevRef τ sig)) from Finset.mem_insert_of_mem (Finset.mem_image_of_mem _ (Finset.mem_univ i))) ?_
    rw [nary_writes, Finset.mem_singleton]; exact ne_of_lt hn (h1 i)

end Builders

/-! ## One equation at a time -/

/-- The equation of an operation with no operand, read off the line's fixed point. -/
theorem eq0 {y : Ref sig .tc} {v : y.ty.Contents Val} {hy} {F : Valuation τ sig Val}
    (h : ∀ b ∈ (nullary (τ := τ) y v hy).writes, F b = (nullary (τ := τ) y v hy).result F b) : F (Proc.devRef .tc y) = v :=
  (h _ (by rw [nullary_writes]; exact Finset.mem_singleton_self _)).trans (nullary_result y v hy F)

theorem eq1 {x y : Ref sig .tc} {f : x.ty.Contents Val → y.ty.Contents Val} {hx hy} {F : Valuation τ sig Val}
    (h : ∀ b ∈ (unary (τ := τ) x y f hx hy).writes, F b = (unary (τ := τ) x y f hx hy).result F b) :
    F (Proc.devRef .tc y) = f (F (Proc.devRef .tc x)) :=
  (h _ (by rw [unary_writes]; exact Finset.mem_singleton_self _)).trans (unary_result x y f hx hy F)

/-- A reshape's function: the operand re-laid in the result's shape. -/
def reshapeFn {x y : Ref sig .tc} (he : x.ty.elt = y.ty.elt) (hnn : x.ty.shape.ShapeCasts y.ty.shape) (v : x.ty.Contents Val) :
    y.ty.Contents Val := fun i => he ▸ shapeCast y.ty.shape v hnn i

theorem eqR {x y : Ref sig .tc} {he hnn hx hy} {F : Valuation τ sig Val}
    (h : ∀ b ∈ (reshape (τ := τ) (Val := Val) x y he hnn hx hy).writes, F b = (reshape (τ := τ) (Val := Val) x y he hnn hx hy).result F b) :
    F (Proc.devRef .tc y) = reshapeFn he hnn (F (Proc.devRef .tc x)) :=
  (h _ (by rw [reshape_writes]; exact Finset.mem_singleton_self _)).trans (reshape_result x y he hnn hx hy F)

theorem eqN {k : Nat} {xs : Fin k → Ref sig .tc} {y : Ref sig .tc} {f : ((i : Fin k) → (xs i).ty.Contents Val) → y.ty.Contents Val}
    {hxs hy} {F : Valuation τ sig Val}
    (h : ∀ b ∈ (nary (τ := τ) xs y f hxs hy).writes, F b = (nary (τ := τ) xs y f hxs hy).result F b) :
    F (Proc.devRef .tc y) = f (fun i => F (Proc.devRef .tc (xs i))) :=
  (h _ (by rw [nary_writes]; exact Finset.mem_singleton_self _)).trans (nary_result xs y f hxs hy F)

theorem eq2 {a b y : Ref sig .tc} {f : a.ty.Contents Val → b.ty.Contents Val → y.ty.Contents Val} {ha hb hy} {F : Valuation τ sig Val}
    (h : ∀ b' ∈ (binary (τ := τ) a b y f ha hb hy).writes, F b' = (binary (τ := τ) a b y f ha hb hy).result F b') :
    F (Proc.devRef .tc y) = f (F (Proc.devRef .tc a)) (F (Proc.devRef .tc b)) :=
  (h _ (by rw [binary_writes]; exact Finset.mem_singleton_self _)).trans (binary_result a b y f ha hb hy F)

theorem eq3 {c a b y : Ref sig .tc} {f : c.ty.Contents Val → a.ty.Contents Val → b.ty.Contents Val → y.ty.Contents Val} {hc ha hb hy}
    {F : Valuation τ sig Val}
    (h : ∀ b' ∈ (ternary (τ := τ) c a b y f hc ha hb hy).writes, F b' = (ternary (τ := τ) c a b y f hc ha hb hy).result F b') :
    F (Proc.devRef .tc y) = f (F (Proc.devRef .tc c)) (F (Proc.devRef .tc a)) (F (Proc.devRef .tc b)) :=
  (h _ (by rw [ternary_writes]; exact Finset.mem_singleton_self _)).trans (ternary_result c a b y f hc ha hb hy F)

/-- Congruence, one operand … three operands: equal functions of equal operands. -/
theorem step0 {β : Type} {v r s : β} (h : r = v) (h' : s = v) : r = s := h.trans h'.symm
theorem step1 {α β : Type} {f : α → β} {p q : α} {r s : β} (h : r = f p) (h' : s = f q) (e : p = q) : r = s := by
  rw [h, h', e]
theorem step2 {α₁ α₂ β : Type} {f : α₁ → α₂ → β} {p₁ q₁ : α₁} {p₂ q₂ : α₂} {r s : β} (h : r = f p₁ p₂) (h' : s = f q₁ q₂)
    (e₁ : p₁ = q₁) (e₂ : p₂ = q₂) : r = s := by rw [h, h', e₁, e₂]
theorem step3 {α₀ α₁ α₂ β : Type} {f : α₀ → α₁ → α₂ → β} {p₀ q₀ : α₀} {p₁ q₁ : α₁} {p₂ q₂ : α₂} {r s : β}
    (h : r = f p₀ p₁ p₂) (h' : s = f q₀ q₁ q₂) (e₀ : p₀ = q₀) (e₁ : p₁ = q₁) (e₂ : p₂ = q₂) : r = s := by rw [h, h', e₀, e₁, e₂]

end Cert.HostFold

end
-- ==== Proof.KBStretch0.lean ====
/- The stretches of @main's host operations before the kernel's region are single-assignment lines: the operations of a
   stretch write the consecutive buffers numbered from the stated bound, each reading only buffers of smaller numbers. -/
import proofs.«133805_j10187662426200_2_alg».proof.Proof.Gen.Kernel.Launch
import proofs.«133805_j10187662426200_2_alg».proof.Proof.HostChain

set_option maxRecDepth 65536

noncomputable section

namespace Cert.Kernel.Stretch

open Cert.Kernel Cert.Kernel.Gen Idealize.ShloMosaic Idealize.ShloMosaic.TcCoe Idealize.SL.Sem Idealize.ShloMosaic.StableHlo Cert.HostFold

variable {F : FTy → Type} [FloatOps F]

set_option maxHeartbeats 4000000 in
/-- Operations 0 … 72 of the program, writing buffers 28 … 100. -/
theorem hostOps0_chain : Chain 28 (hostOps0 : List (HloOp τ sig (Elt F))) :=
  Chain.cons (stepAt_nullary 28 _ _ rfl) <|
  Chain.cons (stepAt_nullary 29 _ _ rfl) <|
  Chain.cons (stepAt_nullary 30 _ _ rfl) <|
  Chain.cons (stepAt_nullary 31 _ _ rfl) <|
  Chain.cons (stepAt_nullary 32 _ _ rfl) <|
  Chain.cons (stepAt_nullary 33 _ _ rfl) <|
  Chain.cons (stepAt_nullary 34 _ _ rfl) <|
  Chain.cons (stepAt_nullary 35 _ _ rfl) <|
  Chain.cons (stepAt_nullary 36 _ _ rfl) <|
  Chain.cons (stepAt_nullary 37 _ _ rfl) <|
  Chain.cons (stepAt_nullary 38 _ _ rfl) <|
  Chain.cons (stepAt_nullary 39 _ _ rfl) <|
  Chain.cons (stepAt_nullary 40 _ _ rfl) <|
  Chain.cons (stepAt_nullary 41 _ _ rfl) <|
  Chain.cons (stepAt_nullary 42 _ _ rfl) <|
  Chain.cons (stepAt_nullary 43 _ _ rfl) <|
  Chain.cons (stepAt_nullary 44 _ _ rfl) <|
  Chain.cons (stepAt_nullary 45 _ _ rfl) <|
  Chain.cons (stepAt_nullary 46 _ _ rfl) <|
  Chain.cons (stepAt_nullary 47 _ _ rfl) <|
  Chain.cons (stepAt_nullary 48 _ _ rfl) <|
  Chain.cons (stepAt_nullary 49 _ _ rfl) <|
  Chain.cons (stepAt_nullary 50 _ _ rfl) <|
  Chain.cons (stepAt_nullary 51 _ _ rfl) <|
  Chain.cons (stepAt_nullary 52 _ _ rfl) <|
  Chain.cons (stepAt_unary 53 _ _ _ rfl (by decide)) <|
  Chain.cons (stepAt_binary 54 _ _ _ _ rfl (by decide) (by decide)) <|
  Chain.cons (stepAt_nullary 55 _ _ rfl) <|
  Chain.cons (stepAt_unary 56 _ _ _ rfl (by decide)) <|
  Chain.cons (stepAt_binary 57 _ _ _ _ rfl (by decide) (by decide)) <|
  Chain.cons (stepAt_unary 58 _ _ _ rfl (by decide)) <|
  Chain.cons (stepAt_unary 59 _ _ _ rfl (by decide)) <|
  Chain.cons (stepAt_unary 60 _ _ _ rfl (by decide)) <|
  Chain.cons (stepAt_binary 61 _ _ _ _ rfl (by decide) (by decide)) <|
  Chain.cons (stepAt_reshape 62 _ _ _ _ rfl (by decide)) <|
  Chain.cons (stepAt_nullary 63 _ _ rfl) <|
  Chain.cons (stepAt_unary 64 _ _ _ rfl (by decide)) <|
  Chain.cons (stepAt_binary 65 _ _ _ _ rfl (by decide) (by decide)) <|
  Chain.cons (stepAt_nullary 66 _ _ rfl) <|
  Chain.cons (stepAt_unary 67 _ _ _ rfl (by decide)) <|
  Chain.cons (stepAt_binary 68 _ _ _ _ rfl (by decide) (by decide)) <|
  Chain.cons (stepAt_ternary 69 _ _ _ _ _ rfl (by decide) (by decide) (by decide)) <|
  Chain.cons (stepAt_unary 70 _ _ _ rfl (by decide)) <|
  Chain.cons (stepAt_binary 71 _ _ _ _ rfl (by decide) (by decide)) <|
  Chain.cons (stepAt_unary 72 _ _ _ rfl (by decide)) <|
  Chain.cons (stepAt_reshape 73 _ _ _ _ rfl (by decide)) <|
  Chain.cons (stepAt_nullary 74 _ _ rfl) <|
  Chain.cons (stepAt_unary 75 _ _ _ rfl (by decide)) <|
  Chain.cons (stepAt_binary 76 _ _ _ _ rfl (by decide) (by decide)) <|
  Chain.cons (stepAt_nullary 77 _ _ rfl) <|
  Chain.cons (stepAt_unary 78 _ _ _ rfl (by decide)) <|
  Chain.cons (stepAt_binary 79 _ _ _ _ rfl (by decide) (by decide)) <|
  Chain.cons (stepAt_nullary 80 _ _ rfl) <|
  Chain.cons (stepAt_unary 81 _ _ _ rfl (by decide)) <|
  Chain.cons (stepAt_binary 82 _ _ _ _ rfl (by decide) (by decide)) <|
  Chain.cons (stepAt_unary 83 _ _ _ rfl (by decide)) <|
  Chain.cons (stepAt_reshape 84 _ _ _ _ rfl (by decide)) <|
  Chain.cons (stepAt_nullary 85 _ _ rfl) <|
  Chain.cons (stepAt_unary 86 _ _ _ rfl (by decide)) <|
  Chain.cons (stepAt_binary 87 _ _ _ _ rfl (by decide) (by decide)) <|
  Chain.cons (stepAt_nullary 88 _ _ rfl) <|
  Chain.cons (stepAt_unary 89 _ _ _ rfl (by decide)) <|
  Chain.cons (stepAt_binary 90 _ _ _ _ rfl (by decide) (by decide)) <|
  Chain.cons (stepAt_nullary 91 _ _ rfl) <|
  Chain.cons (stepAt_unary 92 _ _ _ rfl (by decide)) <|
  Chain.cons (stepAt_binary 93 _ _ _ _ rfl (by decide) (by decide)) <|
  Chain.cons (stepAt_unary 94 _ _ _ rfl (by decide)) <|
  Chain.cons (stepAt_unary 95 _ _ _ rfl (by decide)) <|
  Chain.cons (stepAt_binary 96 _ _ _ _ rfl (by decide) (by decide)) <|
  Chain.cons (stepAt_binary 97 _ _ _ _ rfl (by decide) (by decide)) <|
  Chain.cons (stepAt_unary 98 _ _ _ rfl (by decide)) <|
  Chain.cons (stepAt_nullary 99 _ _ rfl) <|
  Chain.cons (stepAt_nullary 100 _ _ rfl) <|
  Chain.nil
theorem hostOps0_length : (hostOps0 : List (HloOp τ sig (Elt F))).length = 73 := rfl

set_option maxHeartbeats 4000000 in
/-- Operations 73 … 78 of the program, writing buffers 101 … 106. -/
theorem hostOps0_1_chain : Chain 101 (hostOps0_1 : List (HloOp τ sig (Elt F))) :=
  Chain.cons (stepAt_unary 101 _ _ _ rfl (by decide)) <|
  Chain.cons (stepAt_unary 102 _ _ _ rfl (by decide)) <|
  Chain.cons (stepAt_binary 103 _ _ _ _ rfl (by decide) (by decide)) <|
  Chain.cons (stepAt_unary 104 _ _ _ rfl (by decide)) <|
  Chain.cons (stepAt_unary 105 _ _ _ rfl (by decide)) <|
  Chain.cons (stepAt_binary 106 _ _ _ _ rfl (by decide) (by decide)) <|
  Chain.nil
theorem hostOps0_1_length : (hostOps0_1 : List (HloOp τ sig (Elt F))).length = 6 := rfl

set_option maxHeartbeats 4000000 in
/-- Operations 79 … 83 of the program, writing buffers 107 … 111. -/
theorem hostOps0_2_chain : Chain 107 (hostOps0_2 : List (HloOp τ sig (Elt F))) :=
  Chain.cons (stepAt_nullary 107 _ _ rfl) <|
  Chain.cons (stepAt_unary 108 _ _ _ rfl (by decide)) <|
  Chain.cons (stepAt_binary 109 _ _ _ _ rfl (by decide) (by decide)) <|
  Chain.cons (stepAt_nullary 110 _ _ rfl) <|
  Chain.cons (stepAt_nullary 111 _ _ rfl) <|
  Chain.nil
theorem hostOps0_2_length : (hostOps0_2 : List (HloOp τ sig (Elt F))).length = 5 := rfl

set_option maxHeartbeats 4000000 in
/-- Operations 84 … 89 of the program, writing buffers 112 … 117. -/
theorem hostOps0_3_chain : Chain 112 (hostOps0_3 : List (HloOp τ sig (Elt F))) :=
  Chain.cons (stepAt_unary 112 _ _ _ rfl (by decide)) <|
  Chain.cons (stepAt_unary 113 _ _ _ rfl (by decide)) <|
  Chain.cons (stepAt_binary 114 _ _ _ _ rfl (by decide) (by decide)) <|
  Chain.cons (stepAt_unary 115 _ _ _ rfl (by decide)) <|
  Chain.cons (stepAt_unary 116 _ _ _ rfl (by decide)) <|
  Chain.cons (stepAt_binary 117 _ _ _ _ rfl (by decide) (by decide)) <|
  Chain.nil
theorem hostOps0_3_length : (hostOps0_3 : List (HloOp τ sig (Elt F))).length = 6 := rfl

set_option maxHeartbeats 4000000 in
/-- Operations 90 … 92 of the program, writing buffers 118 … 120. -/
theorem hostOps0_4_chain : Chain 118 (hostOps0_4 : List (HloOp τ sig (Elt F))) :=
  Chain.cons (stepAt_unary 118 _ _ _ rfl (by decide)) <|
  Chain.cons (stepAt_nullary 119 _ _ rfl) <|
  Chain.cons (stepAt_nullary 120 _ _ rfl) <|
  Chain.nil
theorem hostOps0_4_length : (hostOps0_4 : List (HloOp τ sig (Elt F))).length = 3 := rfl

set_option maxHeartbeats 4000000 in
/-- Operations 93 … 98 of the program, writing buffers 121 … 126. -/
theorem hostOps0_5_chain : Chain 121 (hostOps0_5 : List (HloOp τ sig (Elt F))) :=
  Chain.cons (stepAt_unary 121 _ _ _ rfl (by decide)) <|
  Chain.cons (stepAt_unary 122 _ _ _ rfl (by decide)) <|
  Chain.cons (stepAt_binary 123 _ _ _ _ rfl (by decide) (by decide)) <|
  Chain.cons (stepAt_unary 124 _ _ _ rfl (by decide)) <|
  Chain.cons (stepAt_unary 125 _ _ _ rfl (by decide)) <|
  Chain.cons (stepAt_binary 126 _ _ _ _ rfl (by decide) (by decide)) <|
  Chain.nil
theorem hostOps0_5_length : (hostOps0_5 : List (HloOp τ sig (Elt F))).length = 6 := rfl

set_option maxHeartbeats 4000000 in
/-- Operations 99 … 103 of the program, writing buffers 127 … 131. -/
theorem hostOps0_6_chain : Chain 127 (hostOps0_6 : List (HloOp τ sig (Elt F))) :=
  Chain.cons (stepAt_nullary 127 _ _ rfl) <|
  Chain.cons (stepAt_unary 128 _ _ _ rfl (by decide)) <|
  Chain.cons (stepAt_binary 129 _ _ _ _ rfl (by decide) (by decide)) <|
  Chain.cons (stepAt_nullary 130 _ _ rfl) <|
  Chain.cons (stepAt_nullary 131 _ _ rfl) <|
  Chain.nil
theorem hostOps0_6_length : (hostOps0_6 : List (HloOp τ sig (Elt F))).length = 5 := rfl

set_option maxHeartbeats 4000000 in
/-- Operations 104 … 109 of the program, writing buffers 132 … 137. -/
theorem hostOps0_7_chain : Chain 132 (hostOps0_7 : List (HloOp τ sig (Elt F))) :=
  Chain.cons (stepAt_unary 132 _ _ _ rfl (by decide)) <|
  Chain.cons (stepAt_unary 133 _ _ _ rfl (by decide)) <|
  Chain.cons (stepAt_binary 134 _ _ _ _ rfl (by decide) (by decide)) <|
  Chain.cons (stepAt_unary 135 _ _ _ rfl (by decide)) <|
  Chain.cons (stepAt_unary 136 _ _ _ rfl (by decide)) <|
  Chain.cons (stepAt_binary 137 _ _ _ _ rfl (by decide) (by decide)) <|
  Chain.nil
theorem hostOps0_7_length : (hostOps0_7 : List (HloOp τ sig (Elt F))).length = 6 := rfl

set_option maxHeartbeats 4000000 in
/-- Operations 110 … 259 of the program, writing buffers 138 … 287. -/
theorem hostOps0_8_chain : Chain 138 (hostOps0_8 : List (HloOp τ sig (Elt F))) :=
  Chain.cons (stepAt_nullary 138 _ _ rfl) <|
  Chain.cons (stepAt_unary 139 _ _ _ rfl (by decide)) <|
  Chain.cons (stepAt_binary 140 _ _ _ _ rfl (by decide) (by decide)) <|
  Chain.cons (stepAt_nullary 141 _ _ rfl) <|
  Chain.cons (stepAt_unary 142 _ _ _ rfl (by decide)) <|
  Chain.cons (stepAt_binary 143 _ _ _ _ rfl (by decide) (by decide)) <|
  Chain.cons (stepAt_ternary 144 _ _ _ _ _ rfl (by decide) (by decide) (by decide)) <|
  Chain.cons (stepAt_nullary 145 _ _ rfl) <|
  Chain.cons (stepAt_unary 146 _ _ _ rfl (by decide)) <|
  Chain.cons (stepAt_binary 147 _ _ _ _ rfl (by decide) (by decide)) <|
  Chain.cons (stepAt_nullary 148 _ _ rfl) <|
  Chain.cons (stepAt_unary 149 _ _ _ rfl (by decide)) <|
  Chain.cons (stepAt_binary 150 _ _ _ _ rfl (by decide) (by decide)) <|
  Chain.cons (stepAt_ternary 151 _ _ _ _ _ rfl (by decide) (by decide) (by decide)) <|
  Chain.cons (stepAt_unary 152 _ _ _ rfl (by decide)) <|
  Chain.cons (stepAt_unary 153 _ _ _ rfl (by decide)) <|
  Chain.cons (stepAt_binary 154 _ _ _ _ rfl (by decide) (by decide)) <|
  Chain.cons (stepAt_binary 155 _ _ _ _ rfl (by decide) (by decide)) <|
  Chain.cons (stepAt_nullary 156 _ _ rfl) <|
  Chain.cons (stepAt_unary 157 _ _ _ rfl (by decide)) <|
  Chain.cons (stepAt_binary 158 _ _ _ _ rfl (by decide) (by decide)) <|
  Chain.cons (stepAt_nullary 159 _ _ rfl) <|
  Chain.cons (stepAt_unary 160 _ _ _ rfl (by decide)) <|
  Chain.cons (stepAt_binary 161 _ _ _ _ rfl (by decide) (by decide)) <|
  Chain.cons (stepAt_ternary 162 _ _ _ _ _ rfl (by decide) (by decide) (by decide)) <|
  Chain.cons (stepAt_nullary 163 _ _ rfl) <|
  Chain.cons (stepAt_unary 164 _ _ _ rfl (by decide)) <|
  Chain.cons (stepAt_binary 165 _ _ _ _ rfl (by decide) (by decide)) <|
  Chain.cons (stepAt_nullary 166 _ _ rfl) <|
  Chain.cons (stepAt_unary 167 _ _ _ rfl (by decide)) <|
  Chain.cons (stepAt_binary 168 _ _ _ _ rfl (by decide) (by decide)) <|
  Chain.cons (stepAt_ternary 169 _ _ _ _ _ rfl (by decide) (by decide) (by decide)) <|
  Chain.cons (stepAt_unary 170 _ _ _ rfl (by decide)) <|
  Chain.cons (stepAt_unary 171 _ _ _ rfl (by decide)) <|
  Chain.cons (stepAt_binary 172 _ _ _ _ rfl (by decide) (by decide)) <|
  Chain.cons (stepAt_binary 173 _ _ _ _ rfl (by decide) (by decide)) <|
  Chain.cons (stepAt_nullary 174 _ _ rfl) <|
  Chain.cons (stepAt_unary 175 _ _ _ rfl (by decide)) <|
  Chain.cons (stepAt_binary 176 _ _ _ _ rfl (by decide) (by decide)) <|
  Chain.cons (stepAt_nullary 177 _ _ rfl) <|
  Chain.cons (stepAt_unary 178 _ _ _ rfl (by decide)) <|
  Chain.cons (stepAt_binary 179 _ _ _ _ rfl (by decide) (by decide)) <|
  Chain.cons (stepAt_ternary 180 _ _ _ _ _ rfl (by decide) (by decide) (by decide)) <|
  Chain.cons (stepAt_nullary 181 _ _ rfl) <|
  Chain.cons (stepAt_unary 182 _ _ _ rfl (by decide)) <|
  Chain.cons (stepAt_binary 183 _ _ _ _ rfl (by decide) (by decide)) <|
  Chain.cons (stepAt_nullary 184 _ _ rfl) <|
  Chain.cons (stepAt_unary 185 _ _ _ rfl (by decide)) <|
  Chain.cons (stepAt_binary 186 _ _ _ _ rfl (by decide) (by decide)) <|
  Chain.cons (stepAt_ternary 187 _ _ _ _ _ rfl (by decide) (by decide) (by decide)) <|
  Chain.cons (stepAt_unary 188 _ _ _ rfl (by decide)) <|
  Chain.cons (stepAt_unary 189 _ _ _ rfl (by decide)) <|
  Chain.cons (stepAt_binary 190 _ _ _ _ rfl (by decide) (by decide)) <|
  Chain.cons (stepAt_binary 191 _ _ _ _ rfl (by decide) (by decide)) <|
  Chain.cons (stepAt_nullary 192 _ _ rfl) <|
  Chain.cons (stepAt_unary 193 _ _ _ rfl (by decide)) <|
  Chain.cons (stepAt_binary 194 _ _ _ _ rfl (by decide) (by decide)) <|
  Chain.cons (stepAt_nullary 195 _ _ rfl) <|
  Chain.cons (stepAt_unary 196 _ _ _ rfl (by decide)) <|
  Chain.cons (stepAt_binary 197 _ _ _ _ rfl (by decide) (by decide)) <|
  Chain.cons (stepAt_ternary 198 _ _ _ _ _ rfl (by decide) (by decide) (by decide)) <|
  Chain.cons (stepAt_nullary 199 _ _ rfl) <|
  Chain.cons (stepAt_unary 200 _ _ _ rfl (by decide)) <|
  Chain.cons (stepAt_binary 201 _ _ _ _ rfl (by decide) (by decide)) <|
  Chain.cons (stepAt_nullary 202 _ _ rfl) <|
  Chain.cons (stepAt_unary 203 _ _ _ rfl (by decide)) <|
  Chain.cons (stepAt_binary 204 _ _ _ _ rfl (by decide) (by decide)) <|
  Chain.cons (stepAt_ternary 205 _ _ _ _ _ rfl (by decide) (by decide) (by decide)) <|
  Chain.cons (stepAt_unary 206 _ _ _ rfl (by decide)) <|
  Chain.cons (stepAt_unary 207 _ _ _ rfl (by decide)) <|
  Chain.cons (stepAt_binary 208 _ _ _ _ rfl (by decide) (by decide)) <|
  Chain.cons (stepAt_binary 209 _ _ _ _ rfl (by decide) (by decide)) <|
  Chain.cons (stepAt_nullary 210 _ _ rfl) <|
  Chain.cons (stepAt_unary 211 _ _ _ rfl (by decide)) <|
  Chain.cons (stepAt_binary 212 _ _ _ _ rfl (by decide) (by decide)) <|
  Chain.cons (stepAt_unary 213 _ _ _ rfl (by decide)) <|
  Chain.cons (stepAt_unary 214 _ _ _ rfl (by decide)) <|
  Chain.cons (stepAt_binary 215 _ _ _ _ rfl (by decide) (by decide)) <|
  Chain.cons (stepAt_nullary 216 _ _ rfl) <|
  Chain.cons (stepAt_unary 217 _ _ _ rfl (by decide)) <|
  Chain.cons (stepAt_binary 218 _ _ _ _ rfl (by decide) (by decide)) <|
  Chain.cons (stepAt_unary 219 _ _ _ rfl (by decide)) <|
  Chain.cons (stepAt_unary 220 _ _ _ rfl (by decide)) <|
  Chain.cons (stepAt_binary 221 _ _ _ _ rfl (by decide) (by decide)) <|
  Chain.cons (stepAt_unary 222 _ _ _ rfl (by decide)) <|
  Chain.cons (stepAt_unary 223 _ _ _ rfl (by decide)) <|
  Chain.cons (stepAt_binary 224 _ _ _ _ rfl (by decide) (by decide)) <|
  Chain.cons (stepAt_nullary 225 _ _ rfl) <|
  Chain.cons (stepAt_unary 226 _ _ _ rfl (by decide)) <|
  Chain.cons (stepAt_binary 227 _ _ _ _ rfl (by decide) (by decide)) <|
  Chain.cons (stepAt_unary 228 _ _ _ rfl (by decide)) <|
  Chain.cons (stepAt_unary 229 _ _ _ rfl (by decide)) <|
  Chain.cons (stepAt_binary 230 _ _ _ _ rfl (by decide) (by decide)) <|
  Chain.cons (stepAt_binary 231 _ _ _ _ rfl (by decide) (by decide)) <|
  Chain.cons (stepAt_nullary 232 _ _ rfl) <|
  Chain.cons (stepAt_unary 233 _ _ _ rfl (by decide)) <|
  Chain.cons (stepAt_binary 234 _ _ _ _ rfl (by decide) (by decide)) <|
  Chain.cons (stepAt_unary 235 _ _ _ rfl (by decide)) <|
  Chain.cons (stepAt_unary 236 _ _ _ rfl (by decide)) <|
  Chain.cons (stepAt_binary 237 _ _ _ _ rfl (by decide) (by decide)) <|
  Chain.cons (stepAt_unary 238 _ _ _ rfl (by decide)) <|
  Chain.cons (stepAt_unary 239 _ _ _ rfl (by decide)) <|
  Chain.cons (stepAt_binary 240 _ _ _ _ rfl (by decide) (by decide)) <|
  Chain.cons (stepAt_binary 241 _ _ _ _ rfl (by decide) (by decide)) <|
  Chain.cons (stepAt_unary 242 _ _ _ rfl (by decide)) <|
  Chain.cons (stepAt_unary 243 _ _ _ rfl (by decide)) <|
  Chain.cons (stepAt_binary 244 _ _ _ _ rfl (by decide) (by decide)) <|
  Chain.cons (stepAt_unary 245 _ _ _ rfl (by decide)) <|
  Chain.cons (stepAt_unary 246 _ _ _ rfl (by decide)) <|
  Chain.cons (stepAt_binary 247 _ _ _ _ rfl (by decide) (by decide)) <|
  Chain.cons (stepAt_binary 248 _ _ _ _ rfl (by decide) (by decide)) <|
  Chain.cons (stepAt_unary 249 _ _ _ rfl (by decide)) <|
  Chain.cons (stepAt_nullary 250 _ _ rfl) <|
  Chain.cons (stepAt_unary 251 _ _ _ rfl (by decide)) <|
  Chain.cons (stepAt_binary 252 _ _ _ _ rfl (by decide) (by decide)) <|
  Chain.cons (stepAt_nullary 253 _ _ rfl) <|
  Chain.cons (stepAt_unary 254 _ _ _ rfl (by decide)) <|
  Chain.cons (stepAt_binary 255 _ _ _ _ rfl (by decide) (by decide)) <|
  Chain.cons (stepAt_ternary 256 _ _ _ _ _ rfl (by decide) (by decide) (by decide)) <|
  Chain.cons (stepAt_unary 257 _ _ _ rfl (by decide)) <|
  Chain.cons (stepAt_binary 258 _ _ _ _ rfl (by decide) (by decide)) <|
  Chain.cons (stepAt_unary 259 _ _ _ rfl (by decide)) <|
  Chain.cons (stepAt_reshape 260 _ _ _ _ rfl (by decide)) <|
  Chain.cons (stepAt_nullary 261 _ _ rfl) <|
  Chain.cons (stepAt_unary 262 _ _ _ rfl (by decide)) <|
  Chain.cons (stepAt_binary 263 _ _ _ _ rfl (by decide) (by decide)) <|
  Chain.cons (stepAt_nullary 264 _ _ rfl) <|
  Chain.cons (stepAt_unary 265 _ _ _ rfl (by decide)) <|
  Chain.cons (stepAt_binary 266 _ _ _ _ rfl (by decide) (by decide)) <|
  Chain.cons (stepAt_nullary 267 _ _ rfl) <|
  Chain.cons (stepAt_unary 268 _ _ _ rfl (by decide)) <|
  Chain.cons (stepAt_binary 269 _ _ _ _ rfl (by decide) (by decide)) <|
  Chain.cons (stepAt_unary 270 _ _ _ rfl (by decide)) <|
  Chain.cons (stepAt_reshape 271 _ _ _ _ rfl (by decide)) <|
  Chain.cons (stepAt_nullary 272 _ _ rfl) <|
  Chain.cons (stepAt_unary 273 _ _ _ rfl (by decide)) <|
  Chain.cons (stepAt_binary 274 _ _ _ _ rfl (by decide) (by decide)) <|
  Chain.cons (stepAt_nullary 275 _ _ rfl) <|
  Chain.cons (stepAt_unary 276 _ _ _ rfl (by decide)) <|
  Chain.cons (stepAt_binary 277 _ _ _ _ rfl (by decide) (by decide)) <|
  Chain.cons (stepAt_nullary 278 _ _ rfl) <|
  Chain.cons (stepAt_unary 279 _ _ _ rfl (by decide)) <|
  Chain.cons (stepAt_binary 280 _ _ _ _ rfl (by decide) (by decide)) <|
  Chain.cons (stepAt_unary 281 _ _ _ rfl (by decide)) <|
  Chain.cons (stepAt_unary 282 _ _ _ rfl (by decide)) <|
  Chain.cons (stepAt_binary 283 _ _ _ _ rfl (by decide) (by decide)) <|
  Chain.cons (stepAt_binary 284 _ _ _ _ rfl (by decide) (by decide)) <|
  Chain.cons (stepAt_unary 285 _ _ _ rfl (by decide)) <|
  Chain.cons (stepAt_nullary 286 _ _ rfl) <|
  Chain.cons (stepAt_nullary 287 _ _ rfl) <|
  Chain.nil
theorem hostOps0_8_length : (hostOps0_8 : List (HloOp τ sig (Elt F))).length = 150 := rfl

set_option maxHeartbeats 4000000 in
/-- Operations 260 … 265 of the program, writing buffers 288 … 293. -/
theorem hostOps0_9_chain : Chain 288 (hostOps0_9 : List (HloOp τ sig (Elt F))) :=
  Chain.cons (stepAt_unary 288 _ _ _ rfl (by decide)) <|
  Chain.cons (stepAt_unary 289 _ _ _ rfl (by decide)) <|
  Chain.cons (stepAt_binary 290 _ _ _ _ rfl (by decide) (by decide)) <|
  Chain.cons (stepAt_unary 291 _ _ _ rfl (by decide)) <|
  Chain.cons (stepAt_unary 292 _ _ _ rfl (by decide)) <|
  Chain.cons (stepAt_binary 293 _ _ _ _ rfl (by decide) (by decide)) <|
  Chain.nil
theorem hostOps0_9_length : (hostOps0_9 : List (HloOp τ sig (Elt F))).length = 6 := rfl

set_option maxHeartbeats 4000000 in
/-- Operations 266 … 270 of the program, writing buffers 294 … 298. -/
theorem hostOps0_10_chain : Chain 294 (hostOps0_10 : List (HloOp τ sig (Elt F))) :=
  Chain.cons (stepAt_nullary 294 _ _ rfl) <|
  Chain.cons (stepAt_unary 295 _ _ _ rfl (by decide)) <|
  Chain.cons (stepAt_binary 296 _ _ _ _ rfl (by decide) (by decide)) <|
  Chain.cons (stepAt_nullary 297 _ _ rfl) <|
  Chain.cons (stepAt_nullary 298 _ _ rfl) <|
  Chain.nil
theorem hostOps0_10_length : (hostOps0_10 : List (HloOp τ sig (Elt F))).length = 5 := rfl

set_option maxHeartbeats 4000000 in
/-- Operations 271 … 276 of the program, writing buffers 299 … 304. -/
theorem hostOps0_11_chain : Chain 299 (hostOps0_11 : List (HloOp τ sig (Elt F))) :=
  Chain.cons (stepAt_unary 299 _ _ _ rfl (by decide)) <|
  Chain.cons (stepAt_unary 300 _ _ _ rfl (by decide)) <|
  Chain.cons (stepAt_binary 301 _ _ _ _ rfl (by decide) (by decide)) <|
  Chain.cons (stepAt_unary 302 _ _ _ rfl (by decide)) <|
  Chain.cons (stepAt_unary 303 _ _ _ rfl (by decide)) <|
  Chain.cons (stepAt_binary 304 _ _ _ _ rfl (by decide) (by decide)) <|
  Chain.nil
theorem hostOps0_11_length : (hostOps0_11 : List (HloOp τ sig (Elt F))).length = 6 := rfl

set_option maxHeartbeats 4000000 in
/-- Operations 277 … 279 of the program, writing buffers 305 … 307. -/
theorem hostOps0_12_chain : Chain 305 (hostOps0_12 : List (HloOp τ sig (Elt F))) :=
  Chain.cons (stepAt_unary 305 _ _ _ rfl (by decide)) <|
  Chain.cons (stepAt_nullary 306 _ _ rfl) <|
  Chain.cons (stepAt_nullary 307 _ _ rfl) <|
  Chain.nil
theorem hostOps0_12_length : (hostOps0_12 : List (HloOp τ sig (Elt F))).length = 3 := rfl

set_option maxHeartbeats 4000000 in
/-- Operations 280 … 285 of the program, writing buffers 308 … 313. -/
theorem hostOps0_13_chain : Chain 308 (hostOps0_13 : List (HloOp τ sig (Elt F))) :=
  Chain.cons (stepAt_unary 308 _ _ _ rfl (by decide)) <|
  Chain.cons (stepAt_unary 309 _ _ _ rfl (by decide)) <|
  Chain.cons (stepAt_binary 310 _ _ _ _ rfl (by decide) (by decide)) <|
  Chain.cons (stepAt_unary 311 _ _ _ rfl (by decide)) <|
  Chain.cons (stepAt_unary 312 _ _ _ rfl (by decide)) <|
  Chain.cons (stepAt_binary 313 _ _ _ _ rfl (by decide) (by decide)) <|
  Chain.nil
theorem hostOps0_13_length : (hostOps0_13 : List (HloOp τ sig (Elt F))).length = 6 := rfl

set_option maxHeartbeats 4000000 in
/-- Operations 286 … 290 of the program, writing buffers 314 … 318. -/
theorem hostOps0_14_chain : Chain 314 (hostOps0_14 : List (HloOp τ sig (Elt F))) :=
  Chain.cons (stepAt_nullary 314 _ _ rfl) <|
  Chain.cons (stepAt_unary 315 _ _ _ rfl (by decide)) <|
  Chain.cons (stepAt_binary 316 _ _ _ _ rfl (by decide) (by decide)) <|
  Chain.cons (stepAt_nullary 317 _ _ rfl) <|
  Chain.cons (stepAt_nullary 318 _ _ rfl) <|
  Chain.nil
theorem hostOps0_14_length : (hostOps0_14 : List (HloOp τ sig (Elt F))).length = 5 := rfl

set_option maxHeartbeats 4000000 in
/-- Operations 291 … 296 of the program, writing buffers 319 … 324. -/
theorem hostOps0_15_chain : Chain 319 (hostOps0_15 : List (HloOp τ sig (Elt F))) :=
  Chain.cons (stepAt_unary 319 _ _ _ rfl (by decide)) <|
  Chain.cons (stepAt_unary 320 _ _ _ rfl (by decide)) <|
  Chain.cons (stepAt_binary 321 _ _ _ _ rfl (by decide) (by decide)) <|
  Chain.cons (stepAt_unary 322 _ _ _ rfl (by decide)) <|
  Chain.cons (stepAt_unary 323 _ _ _ rfl (by decide)) <|
  Chain.cons (stepAt_binary 324 _ _ _ _ rfl (by decide) (by decide)) <|
  Chain.nil
theorem hostOps0_15_length : (hostOps0_15 : List (HloOp τ sig (Elt F))).length = 6 := rfl

set_option maxHeartbeats 4000000 in
/-- Operations 297 … 446 of the program, writing buffers 325 … 474. -/
theorem hostOps0_16_chain : Chain 325 (hostOps0_16 : List (HloOp τ sig (Elt F))) :=
  Chain.cons (stepAt_nullary 325 _ _ rfl) <|
  Chain.cons (stepAt_unary 326 _ _ _ rfl (by decide)) <|
  Chain.cons (stepAt_binary 327 _ _ _ _ rfl (by decide) (by decide)) <|
  Chain.cons (stepAt_nullary 328 _ _ rfl) <|
  Chain.cons (stepAt_unary 329 _ _ _ rfl (by decide)) <|
  Chain.cons (stepAt_binary 330 _ _ _ _ rfl (by decide) (by decide)) <|
  Chain.cons (stepAt_ternary 331 _ _ _ _ _ rfl (by decide) (by decide) (by decide)) <|
  Chain.cons (stepAt_nullary 332 _ _ rfl) <|
  Chain.cons (stepAt_unary 333 _ _ _ rfl (by decide)) <|
  Chain.cons (stepAt_binary 334 _ _ _ _ rfl (by decide) (by decide)) <|
  Chain.cons (stepAt_nullary 335 _ _ rfl) <|
  Chain.cons (stepAt_unary 336 _ _ _ rfl (by decide)) <|
  Chain.cons (stepAt_binary 337 _ _ _ _ rfl (by decide) (by decide)) <|
  Chain.cons (stepAt_ternary 338 _ _ _ _ _ rfl (by decide) (by decide) (by decide)) <|
  Chain.cons (stepAt_unary 339 _ _ _ rfl (by decide)) <|
  Chain.cons (stepAt_unary 340 _ _ _ rfl (by decide)) <|
  Chain.cons (stepAt_binary 341 _ _ _ _ rfl (by decide) (by decide)) <|
  Chain.cons (stepAt_binary 342 _ _ _ _ rfl (by decide) (by decide)) <|
  Chain.cons (stepAt_nullary 343 _ _ rfl) <|
  Chain.cons (stepAt_unary 344 _ _ _ rfl (by decide)) <|
  Chain.cons (stepAt_binary 345 _ _ _ _ rfl (by decide) (by decide)) <|
  Chain.cons (stepAt_nullary 346 _ _ rfl) <|
  Chain.cons (stepAt_unary 347 _ _ _ rfl (by decide)) <|
  Chain.cons (stepAt_binary 348 _ _ _ _ rfl (by decide) (by decide)) <|
  Chain.cons (stepAt_ternary 349 _ _ _ _ _ rfl (by decide) (by decide) (by decide)) <|
  Chain.cons (stepAt_nullary 350 _ _ rfl) <|
  Chain.cons (stepAt_unary 351 _ _ _ rfl (by decide)) <|
  Chain.cons (stepAt_binary 352 _ _ _ _ rfl (by decide) (by decide)) <|
  Chain.cons (stepAt_nullary 353 _ _ rfl) <|
  Chain.cons (stepAt_unary 354 _ _ _ rfl (by decide)) <|
  Chain.cons (stepAt_binary 355 _ _ _ _ rfl (by decide) (by decide)) <|
  Chain.cons (stepAt_ternary 356 _ _ _ _ _ rfl (by decide) (by decide) (by decide)) <|
  Chain.cons (stepAt_unary 357 _ _ _ rfl (by decide)) <|
  Chain.cons (stepAt_unary 358 _ _ _ rfl (by decide)) <|
  Chain.cons (stepAt_binary 359 _ _ _ _ rfl (by decide) (by decide)) <|
  Chain.cons (stepAt_binary 360 _ _ _ _ rfl (by decide) (by decide)) <|
  Chain.cons (stepAt_nullary 361 _ _ rfl) <|
  Chain.cons (stepAt_unary 362 _ _ _ rfl (by decide)) <|
  Chain.cons (stepAt_binary 363 _ _ _ _ rfl (by decide) (by decide)) <|
  Chain.cons (stepAt_nullary 364 _ _ rfl) <|
  Chain.cons (stepAt_unary 365 _ _ _ rfl (by decide)) <|
  Chain.cons (stepAt_binary 366 _ _ _ _ rfl (by decide) (by decide)) <|
  Chain.cons (stepAt_ternary 367 _ _ _ _ _ rfl (by decide) (by decide) (by decide)) <|
  Chain.cons (stepAt_nullary 368 _ _ rfl) <|
  Chain.cons (stepAt_unary 369 _ _ _ rfl (by decide)) <|
  Chain.cons (stepAt_binary 370 _ _ _ _ rfl (by decide) (by decide)) <|
  Chain.cons (stepAt_nullary 371 _ _ rfl) <|
  Chain.cons (stepAt_unary 372 _ _ _ rfl (by decide)) <|
  Chain.cons (stepAt_binary 373 _ _ _ _ rfl (by decide) (by decide)) <|
  Chain.cons (stepAt_ternary 374 _ _ _ _ _ rfl (by decide) (by decide) (by decide)) <|
  Chain.cons (stepAt_unary 375 _ _ _ rfl (by decide)) <|
  Chain.cons (stepAt_unary 376 _ _ _ rfl (by decide)) <|
  Chain.cons (stepAt_binary 377 _ _ _ _ rfl (by decide) (by decide)) <|
  Chain.cons (stepAt_binary 378 _ _ _ _ rfl (by decide) (by decide)) <|
  Chain.cons (stepAt_nullary 379 _ _ rfl) <|
  Chain.cons (stepAt_unary 380 _ _ _ rfl (by decide)) <|
  Chain.cons (stepAt_binary 381 _ _ _ _ rfl (by decide) (by decide)) <|
  Chain.cons (stepAt_nullary 382 _ _ rfl) <|
  Chain.cons (stepAt_unary 383 _ _ _ rfl (by decide)) <|
  Chain.cons (stepAt_binary 384 _ _ _ _ rfl (by decide) (by decide)) <|
  Chain.cons (stepAt_ternary 385 _ _ _ _ _ rfl (by decide) (by decide) (by decide)) <|
  Chain.cons (stepAt_nullary 386 _ _ rfl) <|
  Chain.cons (stepAt_unary 387 _ _ _ rfl (by decide)) <|
  Chain.cons (stepAt_binary 388 _ _ _ _ rfl (by decide) (by decide)) <|
  Chain.cons (stepAt_nullary 389 _ _ rfl) <|
  Chain.cons (stepAt_unary 390 _ _ _ rfl (by decide)) <|
  Chain.cons (stepAt_binary 391 _ _ _ _ rfl (by decide) (by decide)) <|
  Chain.cons (stepAt_ternary 392 _ _ _ _ _ rfl (by decide) (by decide) (by decide)) <|
  Chain.cons (stepAt_unary 393 _ _ _ rfl (by decide)) <|
  Chain.cons (stepAt_unary 394 _ _ _ rfl (by decide)) <|
  Chain.cons (stepAt_binary 395 _ _ _ _ rfl (by decide) (by decide)) <|
  Chain.cons (stepAt_binary 396 _ _ _ _ rfl (by decide) (by decide)) <|
  Chain.cons (stepAt_nullary 397 _ _ rfl) <|
  Chain.cons (stepAt_unary 398 _ _ _ rfl (by decide)) <|
  Chain.cons (stepAt_binary 399 _ _ _ _ rfl (by decide) (by decide)) <|
  Chain.cons (stepAt_unary 400 _ _ _ rfl (by decide)) <|
  Chain.cons (stepAt_unary 401 _ _ _ rfl (by decide)) <|
  Chain.cons (stepAt_binary 402 _ _ _ _ rfl (by decide) (by decide)) <|
  Chain.cons (stepAt_nullary 403 _ _ rfl) <|
  Chain.cons (stepAt_unary 404 _ _ _ rfl (by decide)) <|
  Chain.cons (stepAt_binary 405 _ _ _ _ rfl (by decide) (by decide)) <|
  Chain.cons (stepAt_unary 406 _ _ _ rfl (by decide)) <|
  Chain.cons (stepAt_unary 407 _ _ _ rfl (by decide)) <|
  Chain.cons (stepAt_binary 408 _ _ _ _ rfl (by decide) (by decide)) <|
  Chain.cons (stepAt_unary 409 _ _ _ rfl (by decide)) <|
  Chain.cons (stepAt_unary 410 _ _ _ rfl (by decide)) <|
  Chain.cons (stepAt_binary 411 _ _ _ _ rfl (by decide) (by decide)) <|
  Chain.cons (stepAt_nullary 412 _ _ rfl) <|
  Chain.cons (stepAt_unary 413 _ _ _ rfl (by decide)) <|
  Chain.cons (stepAt_binary 414 _ _ _ _ rfl (by decide) (by decide)) <|
  Chain.cons (stepAt_unary 415 _ _ _ rfl (by decide)) <|
  Chain.cons (stepAt_unary 416 _ _ _ rfl (by decide)) <|
  Chain.cons (stepAt_binary 417 _ _ _ _ rfl (by decide) (by decide)) <|
  Chain.cons (stepAt_binary 418 _ _ _ _ rfl (by decide) (by decide)) <|
  Chain.cons (stepAt_nullary 419 _ _ rfl) <|
  Chain.cons (stepAt_unary 420 _ _ _ rfl (by decide)) <|
  Chain.cons (stepAt_binary 421 _ _ _ _ rfl (by decide) (by decide)) <|
  Chain.cons (stepAt_unary 422 _ _ _ rfl (by decide)) <|
  Chain.cons (stepAt_unary 423 _ _ _ rfl (by decide)) <|
  Chain.cons (stepAt_binary 424 _ _ _ _ rfl (by decide) (by decide)) <|
  Chain.cons (stepAt_unary 425 _ _ _ rfl (by decide)) <|
  Chain.cons (stepAt_unary 426 _ _ _ rfl (by decide)) <|
  Chain.cons (stepAt_binary 427 _ _ _ _ rfl (by decide) (by decide)) <|
  Chain.cons (stepAt_binary 428 _ _ _ _ rfl (by decide) (by decide)) <|
  Chain.cons (stepAt_unary 429 _ _ _ rfl (by decide)) <|
  Chain.cons (stepAt_unary 430 _ _ _ rfl (by decide)) <|
  Chain.cons (stepAt_binary 431 _ _ _ _ rfl (by decide) (by decide)) <|
  Chain.cons (stepAt_unary 432 _ _ _ rfl (by decide)) <|
  Chain.cons (stepAt_unary 433 _ _ _ rfl (by decide)) <|
  Chain.cons (stepAt_binary 434 _ _ _ _ rfl (by decide) (by decide)) <|
  Chain.cons (stepAt_binary 435 _ _ _ _ rfl (by decide) (by decide)) <|
  Chain.cons (stepAt_unary 436 _ _ _ rfl (by decide)) <|
  Chain.cons (stepAt_nullary 437 _ _ rfl) <|
  Chain.cons (stepAt_unary 438 _ _ _ rfl (by decide)) <|
  Chain.cons (stepAt_binary 439 _ _ _ _ rfl (by decide) (by decide)) <|
  Chain.cons (stepAt_nullary 440 _ _ rfl) <|
  Chain.cons (stepAt_unary 441 _ _ _ rfl (by decide)) <|
  Chain.cons (stepAt_binary 442 _ _ _ _ rfl (by decide) (by decide)) <|
  Chain.cons (stepAt_ternary 443 _ _ _ _ _ rfl (by decide) (by decide) (by decide)) <|
  Chain.cons (stepAt_unary 444 _ _ _ rfl (by decide)) <|
  Chain.cons (stepAt_binary 445 _ _ _ _ rfl (by decide) (by decide)) <|
  Chain.cons (stepAt_unary 446 _ _ _ rfl (by decide)) <|
  Chain.cons (stepAt_reshape 447 _ _ _ _ rfl (by decide)) <|
  Chain.cons (stepAt_nullary 448 _ _ rfl) <|
  Chain.cons (stepAt_unary 449 _ _ _ rfl (by decide)) <|
  Chain.cons (stepAt_binary 450 _ _ _ _ rfl (by decide) (by decide)) <|
  Chain.cons (stepAt_nullary 451 _ _ rfl) <|
  Chain.cons (stepAt_unary 452 _ _ _ rfl (by decide)) <|
  Chain.cons (stepAt_binary 453 _ _ _ _ rfl (by decide) (by decide)) <|
  Chain.cons (stepAt_nullary 454 _ _ rfl) <|
  Chain.cons (stepAt_unary 455 _ _ _ rfl (by decide)) <|
  Chain.cons (stepAt_binary 456 _ _ _ _ rfl (by decide) (by decide)) <|
  Chain.cons (stepAt_unary 457 _ _ _ rfl (by decide)) <|
  Chain.cons (stepAt_reshape 458 _ _ _ _ rfl (by decide)) <|
  Chain.cons (stepAt_nullary 459 _ _ rfl) <|
  Chain.cons (stepAt_unary 460 _ _ _ rfl (by decide)) <|
  Chain.cons (stepAt_binary 461 _ _ _ _ rfl (by decide) (by decide)) <|
  Chain.cons (stepAt_nullary 462 _ _ rfl) <|
  Chain.cons (stepAt_unary 463 _ _ _ rfl (by decide)) <|
  Chain.cons (stepAt_binary 464 _ _ _ _ rfl (by decide) (by decide)) <|
  Chain.cons (stepAt_nullary 465 _ _ rfl) <|
  Chain.cons (stepAt_unary 466 _ _ _ rfl (by decide)) <|
  Chain.cons (stepAt_binary 467 _ _ _ _ rfl (by decide) (by decide)) <|
  Chain.cons (stepAt_unary 468 _ _ _ rfl (by decide)) <|
  Chain.cons (stepAt_unary 469 _ _ _ rfl (by decide)) <|
  Chain.cons (stepAt_binary 470 _ _ _ _ rfl (by decide) (by decide)) <|
  Chain.cons (stepAt_binary 471 _ _ _ _ rfl (by decide) (by decide)) <|
  Chain.cons (stepAt_unary 472 _ _ _ rfl (by decide)) <|
  Chain.cons (stepAt_nullary 473 _ _ rfl) <|
  Chain.cons (stepAt_nullary 474 _ _ rfl) <|
  Chain.nil
theorem hostOps0_16_length : (hostOps0_16 : List (HloOp τ sig (Elt F))).length = 150 := rfl

set_option maxHeartbeats 4000000 in
/-- Operations 447 … 452 of the program, writing buffers 475 … 480. -/
theorem hostOps0_17_chain : Chain 475 (hostOps0_17 : List (HloOp τ sig (Elt F))) :=
  Chain.cons (stepAt_unary 475 _ _ _ rfl (by decide)) <|
  Chain.cons (stepAt_unary 476 _ _ _ rfl (by decide)) <|
  Chain.cons (stepAt_binary 477 _ _ _ _ rfl (by decide) (by decide)) <|
  Chain.cons (stepAt_unary 478 _ _ _ rfl (by decide)) <|
  Chain.cons (stepAt_unary 479 _ _ _ rfl (by decide)) <|
  Chain.cons (stepAt_binary 480 _ _ _ _ rfl (by decide) (by decide)) <|
  Chain.nil
theorem hostOps0_17_length : (hostOps0_17 : List (HloOp τ sig (Elt F))).length = 6 := rfl

set_option maxHeartbeats 4000000 in
/-- Operations 453 … 457 of the program, writing buffers 481 … 485. -/
theorem hostOps0_18_chain : Chain 481 (hostOps0_18 : List (HloOp τ sig (Elt F))) :=
  Chain.cons (stepAt_nullary 481 _ _ rfl) <|
  Chain.cons (stepAt_unary 482 _ _ _ rfl (by decide)) <|
  Chain.cons (stepAt_binary 483 _ _ _ _ rfl (by decide) (by decide)) <|
  Chain.cons (stepAt_nullary 484 _ _ rfl) <|
  Chain.cons (stepAt_nullary 485 _ _ rfl) <|
  Chain.nil
theorem hostOps0_18_length : (hostOps0_18 : List (HloOp τ sig (Elt F))).length = 5 := rfl

set_option maxHeartbeats 4000000 in
/-- Operations 458 … 463 of the program, writing buffers 486 … 491. -/
theorem hostOps0_19_chain : Chain 486 (hostOps0_19 : List (HloOp τ sig (Elt F))) :=
  Chain.cons (stepAt_unary 486 _ _ _ rfl (by decide)) <|
  Chain.cons (stepAt_unary 487 _ _ _ rfl (by decide)) <|
  Chain.cons (stepAt_binary 488 _ _ _ _ rfl (by decide) (by decide)) <|
  Chain.cons (stepAt_unary 489 _ _ _ rfl (by decide)) <|
  Chain.cons (stepAt_unary 490 _ _ _ rfl (by decide)) <|
  Chain.cons (stepAt_binary 491 _ _ _ _ rfl (by decide) (by decide)) <|
  Chain.nil
theorem hostOps0_19_length : (hostOps0_19 : List (HloOp τ sig (Elt F))).length = 6 := rfl

set_option maxHeartbeats 4000000 in
/-- Operations 464 … 466 of the program, writing buffers 492 … 494. -/
theorem hostOps0_20_chain : Chain 492 (hostOps0_20 : List (HloOp τ sig (Elt F))) :=
  Chain.cons (stepAt_unary 492 _ _ _ rfl (by decide)) <|
  Chain.cons (stepAt_nullary 493 _ _ rfl) <|
  Chain.cons (stepAt_nullary 494 _ _ rfl) <|
  Chain.nil
theorem hostOps0_20_length : (hostOps0_20 : List (HloOp τ sig (Elt F))).length = 3 := rfl

set_option maxHeartbeats 4000000 in
/-- Operations 467 … 472 of the program, writing buffers 495 … 500. -/
theorem hostOps0_21_chain : Chain 495 (hostOps0_21 : List (HloOp τ sig (Elt F))) :=
  Chain.cons (stepAt_unary 495 _ _ _ rfl (by decide)) <|
  Chain.cons (stepAt_unary 496 _ _ _ rfl (by decide)) <|
  Chain.cons (stepAt_binary 497 _ _ _ _ rfl (by decide) (by decide)) <|
  Chain.cons (stepAt_unary 498 _ _ _ rfl (by decide)) <|
  Chain.cons (stepAt_unary 499 _ _ _ rfl (by decide)) <|
  Chain.cons (stepAt_binary 500 _ _ _ _ rfl (by decide) (by decide)) <|
  Chain.nil
theorem hostOps0_21_length : (hostOps0_21 : List (HloOp τ sig (Elt F))).length = 6 := rfl

set_option maxHeartbeats 4000000 in
/-- Operations 473 … 477 of the program, writing buffers 501 … 505. -/
theorem hostOps0_22_chain : Chain 501 (hostOps0_22 : List (HloOp τ sig (Elt F))) :=
  Chain.cons (stepAt_nullary 501 _ _ rfl) <|
  Chain.cons (stepAt_unary 502 _ _ _ rfl (by decide)) <|
  Chain.cons (stepAt_binary 503 _ _ _ _ rfl (by decide) (by decide)) <|
  Chain.cons (stepAt_nullary 504 _ _ rfl) <|
  Chain.cons (stepAt_nullary 505 _ _ rfl) <|
  Chain.nil
theorem hostOps0_22_length : (hostOps0_22 : List (HloOp τ sig (Elt F))).length = 5 := rfl

set_option maxHeartbeats 4000000 in
/-- Operations 478 … 483 of the program, writing buffers 506 … 511. -/
theorem hostOps0_23_chain : Chain 506 (hostOps0_23 : List (HloOp τ sig (Elt F))) :=
  Chain.cons (stepAt_unary 506 _ _ _ rfl (by decide)) <|
  Chain.cons (stepAt_unary 507 _ _ _ rfl (by decide)) <|
  Chain.cons (stepAt_binary 508 _ _ _ _ rfl (by decide) (by decide)) <|
  Chain.cons (stepAt_unary 509 _ _ _ rfl (by decide)) <|
  Chain.cons (stepAt_unary 510 _ _ _ rfl (by decide)) <|
  Chain.cons (stepAt_binary 511 _ _ _ _ rfl (by decide) (by decide)) <|
  Chain.nil
theorem hostOps0_23_length : (hostOps0_23 : List (HloOp τ sig (Elt F))).length = 6 := rfl

set_option maxHeartbeats 4000000 in
/-- Operations 484 … 633 of the program, writing buffers 512 … 661. -/
theorem hostOps0_24_chain : Chain 512 (hostOps0_24 : List (HloOp τ sig (Elt F))) :=
  Chain.cons (stepAt_nullary 512 _ _ rfl) <|
  Chain.cons (stepAt_unary 513 _ _ _ rfl (by decide)) <|
  Chain.cons (stepAt_binary 514 _ _ _ _ rfl (by decide) (by decide)) <|
  Chain.cons (stepAt_nullary 515 _ _ rfl) <|
  Chain.cons (stepAt_unary 516 _ _ _ rfl (by decide)) <|
  Chain.cons (stepAt_binary 517 _ _ _ _ rfl (by decide) (by decide)) <|
  Chain.cons (stepAt_ternary 518 _ _ _ _ _ rfl (by decide) (by decide) (by decide)) <|
  Chain.cons (stepAt_nullary 519 _ _ rfl) <|
  Chain.cons (stepAt_unary 520 _ _ _ rfl (by decide)) <|
  Chain.cons (stepAt_binary 521 _ _ _ _ rfl (by decide) (by decide)) <|
  Chain.cons (stepAt_nullary 522 _ _ rfl) <|
  Chain.cons (stepAt_unary 523 _ _ _ rfl (by decide)) <|
  Chain.cons (stepAt_binary 524 _ _ _ _ rfl (by decide) (by decide)) <|
  Chain.cons (stepAt_ternary 525 _ _ _ _ _ rfl (by decide) (by decide) (by decide)) <|
  Chain.cons (stepAt_unary 526 _ _ _ rfl (by decide)) <|
  Chain.cons (stepAt_unary 527 _ _ _ rfl (by decide)) <|
  Chain.cons (stepAt_binary 528 _ _ _ _ rfl (by decide) (by decide)) <|
  Chain.cons (stepAt_binary 529 _ _ _ _ rfl (by decide) (by decide)) <|
  Chain.cons (stepAt_nullary 530 _ _ rfl) <|
  Chain.cons (stepAt_unary 531 _ _ _ rfl (by decide)) <|
  Chain.cons (stepAt_binary 532 _ _ _ _ rfl (by decide) (by decide)) <|
  Chain.cons (stepAt_nullary 533 _ _ rfl) <|
  Chain.cons (stepAt_unary 534 _ _ _ rfl (by decide)) <|
  Chain.cons (stepAt_binary 535 _ _ _ _ rfl (by decide) (by decide)) <|
  Chain.cons (stepAt_ternary 536 _ _ _ _ _ rfl (by decide) (by decide) (by decide)) <|
  Chain.cons (stepAt_nullary 537 _ _ rfl) <|
  Chain.cons (stepAt_unary 538 _ _ _ rfl (by decide)) <|
  Chain.cons (stepAt_binary 539 _ _ _ _ rfl (by decide) (by decide)) <|
  Chain.cons (stepAt_nullary 540 _ _ rfl) <|
  Chain.cons (stepAt_unary 541 _ _ _ rfl (by decide)) <|
  Chain.cons (stepAt_binary 542 _ _ _ _ rfl (by decide) (by decide)) <|
  Chain.cons (stepAt_ternary 543 _ _ _ _ _ rfl (by decide) (by decide) (by decide)) <|
  Chain.cons (stepAt_unary 544 _ _ _ rfl (by decide)) <|
  Chain.cons (stepAt_unary 545 _ _ _ rfl (by decide)) <|
  Chain.cons (stepAt_binary 546 _ _ _ _ rfl (by decide) (by decide)) <|
  Chain.cons (stepAt_binary 547 _ _ _ _ rfl (by decide) (by decide)) <|
  Chain.cons (stepAt_nullary 548 _ _ rfl) <|
  Chain.cons (stepAt_unary 549 _ _ _ rfl (by decide)) <|
  Chain.cons (stepAt_binary 550 _ _ _ _ rfl (by decide) (by decide)) <|
  Chain.cons (stepAt_nullary 551 _ _ rfl) <|
  Chain.cons (stepAt_unary 552 _ _ _ rfl (by decide)) <|
  Chain.cons (stepAt_binary 553 _ _ _ _ rfl (by decide) (by decide)) <|
  Chain.cons (stepAt_ternary 554 _ _ _ _ _ rfl (by decide) (by decide) (by decide)) <|
  Chain.cons (stepAt_nullary 555 _ _ rfl) <|
  Chain.cons (stepAt_unary 556 _ _ _ rfl (by decide)) <|
  Chain.cons (stepAt_binary 557 _ _ _ _ rfl (by decide) (by decide)) <|
  Chain.cons (stepAt_nullary 558 _ _ rfl) <|
  Chain.cons (stepAt_unary 559 _ _ _ rfl (by decide)) <|
  Chain.cons (stepAt_binary 560 _ _ _ _ rfl (by decide) (by decide)) <|
  Chain.cons (stepAt_ternary 561 _ _ _ _ _ rfl (by decide) (by decide) (by decide)) <|
  Chain.cons (stepAt_unary 562 _ _ _ rfl (by decide)) <|
  Chain.cons (stepAt_unary 563 _ _ _ rfl (by decide)) <|
  Chain.cons (stepAt_binary 564 _ _ _ _ rfl (by decide) (by decide)) <|
  Chain.cons (stepAt_binary 565 _ _ _ _ rfl (by decide) (by decide)) <|
  Chain.cons (stepAt_nullary 566 _ _ rfl) <|
  Chain.cons (stepAt_unary 567 _ _ _ rfl (by decide)) <|
  Chain.cons (stepAt_binary 568 _ _ _ _ rfl (by decide) (by decide)) <|
  Chain.cons (stepAt_nullary 569 _ _ rfl) <|
  Chain.cons (stepAt_unary 570 _ _ _ rfl (by decide)) <|
  Chain.cons (stepAt_binary 571 _ _ _ _ rfl (by decide) (by decide)) <|
  Chain.cons (stepAt_ternary 572 _ _ _ _ _ rfl (by decide) (by decide) (by decide)) <|
  Chain.cons (stepAt_nullary 573 _ _ rfl) <|
  Chain.cons (stepAt_unary 574 _ _ _ rfl (by decide)) <|
  Chain.cons (stepAt_binary 575 _ _ _ _ rfl (by decide) (by decide)) <|
  Chain.cons (stepAt_nullary 576 _ _ rfl) <|
  Chain.cons (stepAt_unary 577 _ _ _ rfl (by decide)) <|
  Chain.cons (stepAt_binary 578 _ _ _ _ rfl (by decide) (by decide)) <|
  Chain.cons (stepAt_ternary 579 _ _ _ _ _ rfl (by decide) (by decide) (by decide)) <|
  Chain.cons (stepAt_unary 580 _ _ _ rfl (by decide)) <|
  Chain.cons (stepAt_unary 581 _ _ _ rfl (by decide)) <|
  Chain.cons (stepAt_binary 582 _ _ _ _ rfl (by decide) (by decide)) <|
  Chain.cons (stepAt_binary 583 _ _ _ _ rfl (by decide) (by decide)) <|
  Chain.cons (stepAt_nullary 584 _ _ rfl) <|
  Chain.cons (stepAt_unary 585 _ _ _ rfl (by decide)) <|
  Chain.cons (stepAt_binary 586 _ _ _ _ rfl (by decide) (by decide)) <|
  Chain.cons (stepAt_unary 587 _ _ _ rfl (by decide)) <|
  Chain.cons (stepAt_unary 588 _ _ _ rfl (by decide)) <|
  Chain.cons (stepAt_binary 589 _ _ _ _ rfl (by decide) (by decide)) <|
  Chain.cons (stepAt_nullary 590 _ _ rfl) <|
  Chain.cons (stepAt_unary 591 _ _ _ rfl (by decide)) <|
  Chain.cons (stepAt_binary 592 _ _ _ _ rfl (by decide) (by decide)) <|
  Chain.cons (stepAt_unary 593 _ _ _ rfl (by decide)) <|
  Chain.cons (stepAt_unary 594 _ _ _ rfl (by decide)) <|
  Chain.cons (stepAt_binary 595 _ _ _ _ rfl (by decide) (by decide)) <|
  Chain.cons (stepAt_unary 596 _ _ _ rfl (by decide)) <|
  Chain.cons (stepAt_unary 597 _ _ _ rfl (by decide)) <|
  Chain.cons (stepAt_binary 598 _ _ _ _ rfl (by decide) (by decide)) <|
  Chain.cons (stepAt_nullary 599 _ _ rfl) <|
  Chain.cons (stepAt_unary 600 _ _ _ rfl (by decide)) <|
  Chain.cons (stepAt_binary 601 _ _ _ _ rfl (by decide) (by decide)) <|
  Chain.cons (stepAt_unary 602 _ _ _ rfl (by decide)) <|
  Chain.cons (stepAt_unary 603 _ _ _ rfl (by decide)) <|
  Chain.cons (stepAt_binary 604 _ _ _ _ rfl (by decide) (by decide)) <|
  Chain.cons (stepAt_binary 605 _ _ _ _ rfl (by decide) (by decide)) <|
  Chain.cons (stepAt_nullary 606 _ _ rfl) <|
  Chain.cons (stepAt_unary 607 _ _ _ rfl (by decide)) <|
  Chain.cons (stepAt_binary 608 _ _ _ _ rfl (by decide) (by decide)) <|
  Chain.cons (stepAt_unary 609 _ _ _ rfl (by decide)) <|
  Chain.cons (stepAt_unary 610 _ _ _ rfl (by decide)) <|
  Chain.cons (stepAt_binary 611 _ _ _ _ rfl (by decide) (by decide)) <|
  Chain.cons (stepAt_unary 612 _ _ _ rfl (by decide)) <|
  Chain.cons (stepAt_unary 613 _ _ _ rfl (by decide)) <|
  Chain.cons (stepAt_binary 614 _ _ _ _ rfl (by decide) (by decide)) <|
  Chain.cons (stepAt_binary 615 _ _ _ _ rfl (by decide) (by decide)) <|
  Chain.cons (stepAt_unary 616 _ _ _ rfl (by decide)) <|
  Chain.cons (stepAt_unary 617 _ _ _ rfl (by decide)) <|
  Chain.cons (stepAt_binary 618 _ _ _ _ rfl (by decide) (by decide)) <|
  Chain.cons (stepAt_unary 619 _ _ _ rfl (by decide)) <|
  Chain.cons (stepAt_unary 620 _ _ _ rfl (by decide)) <|
  Chain.cons (stepAt_binary 621 _ _ _ _ rfl (by decide) (by decide)) <|
  Chain.cons (stepAt_binary 622 _ _ _ _ rfl (by decide) (by decide)) <|
  Chain.cons (stepAt_unary 623 _ _ _ rfl (by decide)) <|
  Chain.cons (stepAt_nullary 624 _ _ rfl) <|
  Chain.cons (stepAt_unary 625 _ _ _ rfl (by decide)) <|
  Chain.cons (stepAt_binary 626 _ _ _ _ rfl (by decide) (by decide)) <|
  Chain.cons (stepAt_nullary 627 _ _ rfl) <|
  Chain.cons (stepAt_unary 628 _ _ _ rfl (by decide)) <|
  Chain.cons (stepAt_binary 629 _ _ _ _ rfl (by decide) (by decide)) <|
  Chain.cons (stepAt_ternary 630 _ _ _ _ _ rfl (by decide) (by decide) (by decide)) <|
  Chain.cons (stepAt_unary 631 _ _ _ rfl (by decide)) <|
  Chain.cons (stepAt_binary 632 _ _ _ _ rfl (by decide) (by decide)) <|
  Chain.cons (stepAt_unary 633 _ _ _ rfl (by decide)) <|
  Chain.cons (stepAt_reshape 634 _ _ _ _ rfl (by decide)) <|
  Chain.cons (stepAt_nullary 635 _ _ rfl) <|
  Chain.cons (stepAt_unary 636 _ _ _ rfl (by decide)) <|
  Chain.cons (stepAt_binary 637 _ _ _ _ rfl (by decide) (by decide)) <|
  Chain.cons (stepAt_nullary 638 _ _ rfl) <|
  Chain.cons (stepAt_unary 639 _ _ _ rfl (by decide)) <|
  Chain.cons (stepAt_binary 640 _ _ _ _ rfl (by decide) (by decide)) <|
  Chain.cons (stepAt_nullary 641 _ _ rfl) <|
  Chain.cons (stepAt_unary 642 _ _ _ rfl (by decide)) <|
  Chain.cons (stepAt_binary 643 _ _ _ _ rfl (by decide) (by decide)) <|
  Chain.cons (stepAt_unary 644 _ _ _ rfl (by decide)) <|
  Chain.cons (stepAt_reshape 645 _ _ _ _ rfl (by decide)) <|
  Chain.cons (stepAt_nullary 646 _ _ rfl) <|
  Chain.cons (stepAt_unary 647 _ _ _ rfl (by decide)) <|
  Chain.cons (stepAt_binary 648 _ _ _ _ rfl (by decide) (by decide)) <|
  Chain.cons (stepAt_nullary 649 _ _ rfl) <|
  Chain.cons (stepAt_unary 650 _ _ _ rfl (by decide)) <|
  Chain.cons (stepAt_binary 651 _ _ _ _ rfl (by decide) (by decide)) <|
  Chain.cons (stepAt_nullary 652 _ _ rfl) <|
  Chain.cons (stepAt_unary 653 _ _ _ rfl (by decide)) <|
  Chain.cons (stepAt_binary 654 _ _ _ _ rfl (by decide) (by decide)) <|
  Chain.cons (stepAt_unary 655 _ _ _ rfl (by decide)) <|
  Chain.cons (stepAt_unary 656 _ _ _ rfl (by decide)) <|
  Chain.cons (stepAt_binary 657 _ _ _ _ rfl (by decide) (by decide)) <|
  Chain.cons (stepAt_binary 658 _ _ _ _ rfl (by decide) (by decide)) <|
  Chain.cons (stepAt_unary 659 _ _ _ rfl (by decide)) <|
  Chain.cons (stepAt_nullary 660 _ _ rfl) <|
  Chain.cons (stepAt_nullary 661 _ _ rfl) <|
  Chain.nil
theorem hostOps0_24_length : (hostOps0_24 : List (HloOp τ sig (Elt F))).length = 150 := rfl

set_option maxHeartbeats 4000000 in
/-- Operations 634 … 639 of the program, writing buffers 662 … 667. -/
theorem hostOps0_25_chain : Chain 662 (hostOps0_25 : List (HloOp τ sig (Elt F))) :=
  Chain.cons (stepAt_unary 662 _ _ _ rfl (by decide)) <|
  Chain.cons (stepAt_unary 663 _ _ _ rfl (by decide)) <|
  Chain.cons (stepAt_binary 664 _ _ _ _ rfl (by decide) (by decide)) <|
  Chain.cons (stepAt_unary 665 _ _ _ rfl (by decide)) <|
  Chain.cons (stepAt_unary 666 _ _ _ rfl (by decide)) <|
  Chain.cons (stepAt_binary 667 _ _ _ _ rfl (by decide) (by decide)) <|
  Chain.nil
theorem hostOps0_25_length : (hostOps0_25 : List (HloOp τ sig (Elt F))).length = 6 := rfl

set_option maxHeartbeats 4000000 in
/-- Operations 640 … 644 of the program, writing buffers 668 … 672. -/
theorem hostOps0_26_chain : Chain 668 (hostOps0_26 : List (HloOp τ sig (Elt F))) :=
  Chain.cons (stepAt_nullary 668 _ _ rfl) <|
  Chain.cons (stepAt_unary 669 _ _ _ rfl (by decide)) <|
  Chain.cons (stepAt_binary 670 _ _ _ _ rfl (by decide) (by decide)) <|
  Chain.cons (stepAt_nullary 671 _ _ rfl) <|
  Chain.cons (stepAt_nullary 672 _ _ rfl) <|
  Chain.nil
theorem hostOps0_26_length : (hostOps0_26 : List (HloOp τ sig (Elt F))).length = 5 := rfl

set_option maxHeartbeats 4000000 in
/-- Operations 645 … 650 of the program, writing buffers 673 … 678. -/
theorem hostOps0_27_chain : Chain 673 (hostOps0_27 : List (HloOp τ sig (Elt F))) :=
  Chain.cons (stepAt_unary 673 _ _ _ rfl (by decide)) <|
  Chain.cons (stepAt_unary 674 _ _ _ rfl (by decide)) <|
  Chain.cons (stepAt_binary 675 _ _ _ _ rfl (by decide) (by decide)) <|
  Chain.cons (stepAt_unary 676 _ _ _ rfl (by decide)) <|
  Chain.cons (stepAt_unary 677 _ _ _ rfl (by decide)) <|
  Chain.cons (stepAt_binary 678 _ _ _ _ rfl (by decide) (by decide)) <|
  Chain.nil
theorem hostOps0_27_length : (hostOps0_27 : List (HloOp τ sig (Elt F))).length = 6 := rfl

set_option maxHeartbeats 4000000 in
/-- Operations 651 … 653 of the program, writing buffers 679 … 681. -/
theorem hostOps0_28_chain : Chain 679 (hostOps0_28 : List (HloOp τ sig (Elt F))) :=
  Chain.cons (stepAt_unary 679 _ _ _ rfl (by decide)) <|
  Chain.cons (stepAt_nullary 680 _ _ rfl) <|
  Chain.cons (stepAt_nullary 681 _ _ rfl) <|
  Chain.nil
theorem hostOps0_28_length : (hostOps0_28 : List (HloOp τ sig (Elt F))).length = 3 := rfl

set_option maxHeartbeats 4000000 in
/-- Operations 654 … 659 of the program, writing buffers 682 … 687. -/
theorem hostOps0_29_chain : Chain 682 (hostOps0_29 : List (HloOp τ sig (Elt F))) :=
  Chain.cons (stepAt_unary 682 _ _ _ rfl (by decide)) <|
  Chain.cons (stepAt_unary 683 _ _ _ rfl (by decide)) <|
  Chain.cons (stepAt_binary 684 _ _ _ _ rfl (by decide) (by decide)) <|
  Chain.cons (stepAt_unary 685 _ _ _ rfl (by decide)) <|
  Chain.cons (stepAt_unary 686 _ _ _ rfl (by decide)) <|
  Chain.cons (stepAt_binary 687 _ _ _ _ rfl (by decide) (by decide)) <|
  Chain.nil
theorem hostOps0_29_length : (hostOps0_29 : List (HloOp τ sig (Elt F))).length = 6 := rfl

set_option maxHeartbeats 4000000 in
/-- Operations 660 … 664 of the program, writing buffers 688 … 692. -/
theorem hostOps0_30_chain : Chain 688 (hostOps0_30 : List (HloOp τ sig (Elt F))) :=
  Chain.cons (stepAt_nullary 688 _ _ rfl) <|
  Chain.cons (stepAt_unary 689 _ _ _ rfl (by decide)) <|
  Chain.cons (stepAt_binary 690 _ _ _ _ rfl (by decide) (by decide)) <|
  Chain.cons (stepAt_nullary 691 _ _ rfl) <|
  Chain.cons (stepAt_nullary 692 _ _ rfl) <|
  Chain.nil
theorem hostOps0_30_length : (hostOps0_30 : List (HloOp τ sig (Elt F))).length = 5 := rfl

set_option maxHeartbeats 4000000 in
/-- Operations 665 … 670 of the program, writing buffers 693 … 698. -/
theorem hostOps0_31_chain : Chain 693 (hostOps0_31 : List (HloOp τ sig (Elt F))) :=
  Chain.cons (stepAt_unary 693 _ _ _ rfl (by decide)) <|
  Chain.cons (stepAt_unary 694 _ _ _ rfl (by decide)) <|
  Chain.cons (stepAt_binary 695 _ _ _ _ rfl (by decide) (by decide)) <|
  Chain.cons (stepAt_unary 696 _ _ _ rfl (by decide)) <|
  Chain.cons (stepAt_unary 697 _ _ _ rfl (by decide)) <|
  Chain.cons (stepAt_binary 698 _ _ _ _ rfl (by decide) (by decide)) <|
  Chain.nil
theorem hostOps0_31_length : (hostOps0_31 : List (HloOp τ sig (Elt F))).length = 6 := rfl

set_option maxHeartbeats 4000000 in
/-- Operations 671 … 820 of the program, writing buffers 699 … 848. -/
theorem hostOps0_32_chain : Chain 699 (hostOps0_32 : List (HloOp τ sig (Elt F))) :=
  Chain.cons (stepAt_nullary 699 _ _ rfl) <|
  Chain.cons (stepAt_unary 700 _ _ _ rfl (by decide)) <|
  Chain.cons (stepAt_binary 701 _ _ _ _ rfl (by decide) (by decide)) <|
  Chain.cons (stepAt_nullary 702 _ _ rfl) <|
  Chain.cons (stepAt_unary 703 _ _ _ rfl (by decide)) <|
  Chain.cons (stepAt_binary 704 _ _ _ _ rfl (by decide) (by decide)) <|
  Chain.cons (stepAt_ternary 705 _ _ _ _ _ rfl (by decide) (by decide) (by decide)) <|
  Chain.cons (stepAt_nullary 706 _ _ rfl) <|
  Chain.cons (stepAt_unary 707 _ _ _ rfl (by decide)) <|
  Chain.cons (stepAt_binary 708 _ _ _ _ rfl (by decide) (by decide)) <|
  Chain.cons (stepAt_nullary 709 _ _ rfl) <|
  Chain.cons (stepAt_unary 710 _ _ _ rfl (by decide)) <|
  Chain.cons (stepAt_binary 711 _ _ _ _ rfl (by decide) (by decide)) <|
  Chain.cons (stepAt_ternary 712 _ _ _ _ _ rfl (by decide) (by decide) (by decide)) <|
  Chain.cons (stepAt_unary 713 _ _ _ rfl (by decide)) <|
  Chain.cons (stepAt_unary 714 _ _ _ rfl (by decide)) <|
  Chain.cons (stepAt_binary 715 _ _ _ _ rfl (by decide) (by decide)) <|
  Chain.cons (stepAt_binary 716 _ _ _ _ rfl (by decide) (by decide)) <|
  Chain.cons (stepAt_nullary 717 _ _ rfl) <|
  Chain.cons (stepAt_unary 718 _ _ _ rfl (by decide)) <|
  Chain.cons (stepAt_binary 719 _ _ _ _ rfl (by decide) (by decide)) <|
  Chain.cons (stepAt_nullary 720 _ _ rfl) <|
  Chain.cons (stepAt_unary 721 _ _ _ rfl (by decide)) <|
  Chain.cons (stepAt_binary 722 _ _ _ _ rfl (by decide) (by decide)) <|
  Chain.cons (stepAt_ternary 723 _ _ _ _ _ rfl (by decide) (by decide) (by decide)) <|
  Chain.cons (stepAt_nullary 724 _ _ rfl) <|
  Chain.cons (stepAt_unary 725 _ _ _ rfl (by decide)) <|
  Chain.cons (stepAt_binary 726 _ _ _ _ rfl (by decide) (by decide)) <|
  Chain.cons (stepAt_nullary 727 _ _ rfl) <|
  Chain.cons (stepAt_unary 728 _ _ _ rfl (by decide)) <|
  Chain.cons (stepAt_binary 729 _ _ _ _ rfl (by decide) (by decide)) <|
  Chain.cons (stepAt_ternary 730 _ _ _ _ _ rfl (by decide) (by decide) (by decide)) <|
  Chain.cons (stepAt_unary 731 _ _ _ rfl (by decide)) <|
  Chain.cons (stepAt_unary 732 _ _ _ rfl (by decide)) <|
  Chain.cons (stepAt_binary 733 _ _ _ _ rfl (by decide) (by decide)) <|
  Chain.cons (stepAt_binary 734 _ _ _ _ rfl (by decide) (by decide)) <|
  Chain.cons (stepAt_nullary 735 _ _ rfl) <|
  Chain.cons (stepAt_unary 736 _ _ _ rfl (by decide)) <|
  Chain.cons (stepAt_binary 737 _ _ _ _ rfl (by decide) (by decide)) <|
  Chain.cons (stepAt_nullary 738 _ _ rfl) <|
  Chain.cons (stepAt_unary 739 _ _ _ rfl (by decide)) <|
  Chain.cons (stepAt_binary 740 _ _ _ _ rfl (by decide) (by decide)) <|
  Chain.cons (stepAt_ternary 741 _ _ _ _ _ rfl (by decide) (by decide) (by decide)) <|
  Chain.cons (stepAt_nullary 742 _ _ rfl) <|
  Chain.cons (stepAt_unary 743 _ _ _ rfl (by decide)) <|
  Chain.cons (stepAt_binary 744 _ _ _ _ rfl (by decide) (by decide)) <|
  Chain.cons (stepAt_nullary 745 _ _ rfl) <|
  Chain.cons (stepAt_unary 746 _ _ _ rfl (by decide)) <|
  Chain.cons (stepAt_binary 747 _ _ _ _ rfl (by decide) (by decide)) <|
  Chain.cons (stepAt_ternary 748 _ _ _ _ _ rfl (by decide) (by decide) (by decide)) <|
  Chain.cons (stepAt_unary 749 _ _ _ rfl (by decide)) <|
  Chain.cons (stepAt_unary 750 _ _ _ rfl (by decide)) <|
  Chain.cons (stepAt_binary 751 _ _ _ _ rfl (by decide) (by decide)) <|
  Chain.cons (stepAt_binary 752 _ _ _ _ rfl (by decide) (by decide)) <|
  Chain.cons (stepAt_nullary 753 _ _ rfl) <|
  Chain.cons (stepAt_unary 754 _ _ _ rfl (by decide)) <|
  Chain.cons (stepAt_binary 755 _ _ _ _ rfl (by decide) (by decide)) <|
  Chain.cons (stepAt_nullary 756 _ _ rfl) <|
  Chain.cons (stepAt_unary 757 _ _ _ rfl (by decide)) <|
  Chain.cons (stepAt_binary 758 _ _ _ _ rfl (by decide) (by decide)) <|
  Chain.cons (stepAt_ternary 759 _ _ _ _ _ rfl (by decide) (by decide) (by decide)) <|
  Chain.cons (stepAt_nullary 760 _ _ rfl) <|
  Chain.cons (stepAt_unary 761 _ _ _ rfl (by decide)) <|
  Chain.cons (stepAt_binary 762 _ _ _ _ rfl (by decide) (by decide)) <|
  Chain.cons (stepAt_nullary 763 _ _ rfl) <|
  Chain.cons (stepAt_unary 764 _ _ _ rfl (by decide)) <|
  Chain.cons (stepAt_binary 765 _ _ _ _ rfl (by decide) (by decide)) <|
  Chain.cons (stepAt_ternary 766 _ _ _ _ _ rfl (by decide) (by decide) (by decide)) <|
  Chain.cons (stepAt_unary 767 _ _ _ rfl (by decide)) <|
  Chain.cons (stepAt_unary 768 _ _ _ rfl (by decide)) <|
  Chain.cons (stepAt_binary 769 _ _ _ _ rfl (by decide) (by decide)) <|
  Chain.cons (stepAt_binary 770 _ _ _ _ rfl (by decide) (by decide)) <|
  Chain.cons (stepAt_nullary 771 _ _ rfl) <|
  Chain.cons (stepAt_unary 772 _ _ _ rfl (by decide)) <|
  Chain.cons (stepAt_binary 773 _ _ _ _ rfl (by decide) (by decide)) <|
  Chain.cons (stepAt_unary 774 _ _ _ rfl (by decide)) <|
  Chain.cons (stepAt_unary 775 _ _ _ rfl (by decide)) <|
  Chain.cons (stepAt_binary 776 _ _ _ _ rfl (by decide) (by decide)) <|
  Chain.cons (stepAt_nullary 777 _ _ rfl) <|
  Chain.cons (stepAt_unary 778 _ _ _ rfl (by decide)) <|
  Chain.cons (stepAt_binary 779 _ _ _ _ rfl (by decide) (by decide)) <|
  Chain.cons (stepAt_unary 780 _ _ _ rfl (by decide)) <|
  Chain.cons (stepAt_unary 781 _ _ _ rfl (by decide)) <|
  Chain.cons (stepAt_binary 782 _ _ _ _ rfl (by decide) (by decide)) <|
  Chain.cons (stepAt_unary 783 _ _ _ rfl (by decide)) <|
  Chain.cons (stepAt_unary 784 _ _ _ rfl (by decide)) <|
  Chain.cons (stepAt_binary 785 _ _ _ _ rfl (by decide) (by decide)) <|
  Chain.cons (stepAt_nullary 786 _ _ rfl) <|
  Chain.cons (stepAt_unary 787 _ _ _ rfl (by decide)) <|
  Chain.cons (stepAt_binary 788 _ _ _ _ rfl (by decide) (by decide)) <|
  Chain.cons (stepAt_unary 789 _ _ _ rfl (by decide)) <|
  Chain.cons (stepAt_unary 790 _ _ _ rfl (by decide)) <|
  Chain.cons (stepAt_binary 791 _ _ _ _ rfl (by decide) (by decide)) <|
  Chain.cons (stepAt_binary 792 _ _ _ _ rfl (by decide) (by decide)) <|
  Chain.cons (stepAt_nullary 793 _ _ rfl) <|
  Chain.cons (stepAt_unary 794 _ _ _ rfl (by decide)) <|
  Chain.cons (stepAt_binary 795 _ _ _ _ rfl (by decide) (by decide)) <|
  Chain.cons (stepAt_unary 796 _ _ _ rfl (by decide)) <|
  Chain.cons (stepAt_unary 797 _ _ _ rfl (by decide)) <|
  Chain.cons (stepAt_binary 798 _ _ _ _ rfl (by decide) (by decide)) <|
  Chain.cons (stepAt_unary 799 _ _ _ rfl (by decide)) <|
  Chain.cons (stepAt_unary 800 _ _ _ rfl (by decide)) <|
  Chain.cons (stepAt_binary 801 _ _ _ _ rfl (by decide) (by decide)) <|
  Chain.cons (stepAt_binary 802 _ _ _ _ rfl (by decide) (by decide)) <|
  Chain.cons (stepAt_unary 803 _ _ _ rfl (by decide)) <|
  Chain.cons (stepAt_unary 804 _ _ _ rfl (by decide)) <|
  Chain.cons (stepAt_binary 805 _ _ _ _ rfl (by decide) (by decide)) <|
  Chain.cons (stepAt_unary 806 _ _ _ rfl (by decide)) <|
  Chain.cons (stepAt_unary 807 _ _ _ rfl (by decide)) <|
  Chain.cons (stepAt_binary 808 _ _ _ _ rfl (by decide) (by decide)) <|
  Chain.cons (stepAt_binary 809 _ _ _ _ rfl (by decide) (by decide)) <|
  Chain.cons (stepAt_unary 810 _ _ _ rfl (by decide)) <|
  Chain.cons (stepAt_nullary 811 _ _ rfl) <|
  Chain.cons (stepAt_unary 812 _ _ _ rfl (by decide)) <|
  Chain.cons (stepAt_binary 813 _ _ _ _ rfl (by decide) (by decide)) <|
  Chain.cons (stepAt_nullary 814 _ _ rfl) <|
  Chain.cons (stepAt_unary 815 _ _ _ rfl (by decide)) <|
  Chain.cons (stepAt_binary 816 _ _ _ _ rfl (by decide) (by decide)) <|
  Chain.cons (stepAt_ternary 817 _ _ _ _ _ rfl (by decide) (by decide) (by decide)) <|
  Chain.cons (stepAt_unary 818 _ _ _ rfl (by decide)) <|
  Chain.cons (stepAt_binary 819 _ _ _ _ rfl (by decide) (by decide)) <|
  Chain.cons (stepAt_unary 820 _ _ _ rfl (by decide)) <|
  Chain.cons (stepAt_reshape 821 _ _ _ _ rfl (by decide)) <|
  Chain.cons (stepAt_nullary 822 _ _ rfl) <|
  Chain.cons (stepAt_unary 823 _ _ _ rfl (by decide)) <|
  Chain.cons (stepAt_binary 824 _ _ _ _ rfl (by decide) (by decide)) <|
  Chain.cons (stepAt_nullary 825 _ _ rfl) <|
  Chain.cons (stepAt_unary 826 _ _ _ rfl (by decide)) <|
  Chain.cons (stepAt_binary 827 _ _ _ _ rfl (by decide) (by decide)) <|
  Chain.cons (stepAt_nullary 828 _ _ rfl) <|
  Chain.cons (stepAt_unary 829 _ _ _ rfl (by decide)) <|
  Chain.cons (stepAt_binary 830 _ _ _ _ rfl (by decide) (by decide)) <|
  Chain.cons (stepAt_unary 831 _ _ _ rfl (by decide)) <|
  Chain.cons (stepAt_reshape 832 _ _ _ _ rfl (by decide)) <|
  Chain.cons (stepAt_nullary 833 _ _ rfl) <|
  Chain.cons (stepAt_unary 834 _ _ _ rfl (by decide)) <|
  Chain.cons (stepAt_binary 835 _ _ _ _ rfl (by decide) (by decide)) <|
  Chain.cons (stepAt_nullary 836 _ _ rfl) <|
  Chain.cons (stepAt_unary 837 _ _ _ rfl (by decide)) <|
  Chain.cons (stepAt_binary 838 _ _ _ _ rfl (by decide) (by decide)) <|
  Chain.cons (stepAt_nullary 839 _ _ rfl) <|
  Chain.cons (stepAt_unary 840 _ _ _ rfl (by decide)) <|
  Chain.cons (stepAt_binary 841 _ _ _ _ rfl (by decide) (by decide)) <|
  Chain.cons (stepAt_unary 842 _ _ _ rfl (by decide)) <|
  Chain.cons (stepAt_unary 843 _ _ _ rfl (by decide)) <|
  Chain.cons (stepAt_binary 844 _ _ _ _ rfl (by decide) (by decide)) <|
  Chain.cons (stepAt_binary 845 _ _ _ _ rfl (by decide) (by decide)) <|
  Chain.cons (stepAt_unary 846 _ _ _ rfl (by decide)) <|
  Chain.cons (stepAt_nullary 847 _ _ rfl) <|
  Chain.cons (stepAt_nullary 848 _ _ rfl) <|
  Chain.nil
theorem hostOps0_32_length : (hostOps0_32 : List (HloOp τ sig (Elt F))).length = 150 := rfl

set_option maxHeartbeats 4000000 in
/-- Operations 821 … 826 of the program, writing buffers 849 … 854. -/
theorem hostOps0_33_chain : Chain 849 (hostOps0_33 : List (HloOp τ sig (Elt F))) :=
  Chain.cons (stepAt_unary 849 _ _ _ rfl (by decide)) <|
  Chain.cons (stepAt_unary 850 _ _ _ rfl (by decide)) <|
  Chain.cons (stepAt_binary 851 _ _ _ _ rfl (by decide) (by decide)) <|
  Chain.cons (stepAt_unary 852 _ _ _ rfl (by decide)) <|
  Chain.cons (stepAt_unary 853 _ _ _ rfl (by decide)) <|
  Chain.cons (stepAt_binary 854 _ _ _ _ rfl (by decide) (by decide)) <|
  Chain.nil
theorem hostOps0_33_length : (hostOps0_33 : List (HloOp τ sig (Elt F))).length = 6 := rfl

set_option maxHeartbeats 4000000 in
/-- Operations 827 … 831 of the program, writing buffers 855 … 859. -/
theorem hostOps0_34_chain : Chain 855 (hostOps0_34 : List (HloOp τ sig (Elt F))) :=
  Chain.cons (stepAt_nullary 855 _ _ rfl) <|
  Chain.cons (stepAt_unary 856 _ _ _ rfl (by decide)) <|
  Chain.cons (stepAt_binary 857 _ _ _ _ rfl (by decide) (by decide)) <|
  Chain.cons (stepAt_nullary 858 _ _ rfl) <|
  Chain.cons (stepAt_nullary 859 _ _ rfl) <|
  Chain.nil
theorem hostOps0_34_length : (hostOps0_34 : List (HloOp τ sig (Elt F))).length = 5 := rfl

set_option maxHeartbeats 4000000 in
/-- Operations 832 … 837 of the program, writing buffers 860 … 865. -/
theorem hostOps0_35_chain : Chain 860 (hostOps0_35 : List (HloOp τ sig (Elt F))) :=
  Chain.cons (stepAt_unary 860 _ _ _ rfl (by decide)) <|
  Chain.cons (stepAt_unary 861 _ _ _ rfl (by decide)) <|
  Chain.cons (stepAt_binary 862 _ _ _ _ rfl (by decide) (by decide)) <|
  Chain.cons (stepAt_unary 863 _ _ _ rfl (by decide)) <|
  Chain.cons (stepAt_unary 864 _ _ _ rfl (by decide)) <|
  Chain.cons (stepAt_binary 865 _ _ _ _ rfl (by decide) (by decide)) <|
  Chain.nil
theorem hostOps0_35_length : (hostOps0_35 : List (HloOp τ sig (Elt F))).length = 6 := rfl

set_option maxHeartbeats 4000000 in
/-- Operations 838 … 840 of the program, writing buffers 866 … 868. -/
theorem hostOps0_36_chain : Chain 866 (hostOps0_36 : List (HloOp τ sig (Elt F))) :=
  Chain.cons (stepAt_unary 866 _ _ _ rfl (by decide)) <|
  Chain.cons (stepAt_nullary 867 _ _ rfl) <|
  Chain.cons (stepAt_nullary 868 _ _ rfl) <|
  Chain.nil
theorem hostOps0_36_length : (hostOps0_36 : List (HloOp τ sig (Elt F))).length = 3 := rfl

set_option maxHeartbeats 4000000 in
/-- Operations 841 … 846 of the program, writing buffers 869 … 874. -/
theorem hostOps0_37_chain : Chain 869 (hostOps0_37 : List (HloOp τ sig (Elt F))) :=
  Chain.cons (stepAt_unary 869 _ _ _ rfl (by decide)) <|
  Chain.cons (stepAt_unary 870 _ _ _ rfl (by decide)) <|
  Chain.cons (stepAt_binary 871 _ _ _ _ rfl (by decide) (by decide)) <|
  Chain.cons (stepAt_unary 872 _ _ _ rfl (by decide)) <|
  Chain.cons (stepAt_unary 873 _ _ _ rfl (by decide)) <|
  Chain.cons (stepAt_binary 874 _ _ _ _ rfl (by decide) (by decide)) <|
  Chain.nil
theorem hostOps0_37_length : (hostOps0_37 : List (HloOp τ sig (Elt F))).length = 6 := rfl

set_option maxHeartbeats 4000000 in
/-- Operations 847 … 851 of the program, writing buffers 875 … 879. -/
theorem hostOps0_38_chain : Chain 875 (hostOps0_38 : List (HloOp τ sig (Elt F))) :=
  Chain.cons (stepAt_nullary 875 _ _ rfl) <|
  Chain.cons (stepAt_unary 876 _ _ _ rfl (by decide)) <|
  Chain.cons (stepAt_binary 877 _ _ _ _ rfl (by decide) (by decide)) <|
  Chain.cons (stepAt_nullary 878 _ _ rfl) <|
  Chain.cons (stepAt_nullary 879 _ _ rfl) <|
  Chain.nil
theorem hostOps0_38_length : (hostOps0_38 : List (HloOp τ sig (Elt F))).length = 5 := rfl

set_option maxHeartbeats 4000000 in
/-- Operations 852 … 857 of the program, writing buffers 880 … 885. -/
theorem hostOps0_39_chain : Chain 880 (hostOps0_39 : List (HloOp τ sig (Elt F))) :=
  Chain.cons (stepAt_unary 880 _ _ _ rfl (by decide)) <|
  Chain.cons (stepAt_unary 881 _ _ _ rfl (by decide)) <|
  Chain.cons (stepAt_binary 882 _ _ _ _ rfl (by decide) (by decide)) <|
  Chain.cons (stepAt_unary 883 _ _ _ rfl (by decide)) <|
  Chain.cons (stepAt_unary 884 _ _ _ rfl (by decide)) <|
  Chain.cons (stepAt_binary 885 _ _ _ _ rfl (by decide) (by decide)) <|
  Chain.nil
theorem hostOps0_39_length : (hostOps0_39 : List (HloOp τ sig (Elt F))).length = 6 := rfl

end Cert.Kernel.Stretch

end
-- ==== Proof.KBStretch1.lean ====
/- The stretches of @main's host operations before the kernel's region are single-assignment lines: the operations of a
   stretch write the consecutive buffers numbered from the stated bound, each reading only buffers of smaller numbers. -/
import proofs.«133805_j10187662426200_2_alg».proof.Proof.Gen.Kernel.Launch
import proofs.«133805_j10187662426200_2_alg».proof.Proof.HostChain

set_option maxRecDepth 65536

noncomputable section

namespace Cert.Kernel.Stretch

open Cert.Kernel Cert.Kernel.Gen Idealize.ShloMosaic Idealize.ShloMosaic.TcCoe Idealize.SL.Sem Idealize.ShloMosaic.StableHlo Cert.HostFold

variable {F : FTy → Type} [FloatOps F]

set_option maxHeartbeats 4000000 in
/-- Operations 858 … 1007 of the program, writing buffers 886 … 1035. -/
theorem hostOps0_40_chain : Chain 886 (hostOps0_40 : List (HloOp τ sig (Elt F))) :=
  Chain.cons (stepAt_nullary 886 _ _ rfl) <|
  Chain.cons (stepAt_unary 887 _ _ _ rfl (by decide)) <|
  Chain.cons (stepAt_binary 888 _ _ _ _ rfl (by decide) (by decide)) <|
  Chain.cons (stepAt_nullary 889 _ _ rfl) <|
  Chain.cons (stepAt_unary 890 _ _ _ rfl (by decide)) <|
  Chain.cons (stepAt_binary 891 _ _ _ _ rfl (by decide) (by decide)) <|
  Chain.cons (stepAt_ternary 892 _ _ _ _ _ rfl (by decide) (by decide) (by decide)) <|
  Chain.cons (stepAt_nullary 893 _ _ rfl) <|
  Chain.cons (stepAt_unary 894 _ _ _ rfl (by decide)) <|
  Chain.cons (stepAt_binary 895 _ _ _ _ rfl (by decide) (by decide)) <|
  Chain.cons (stepAt_nullary 896 _ _ rfl) <|
  Chain.cons (stepAt_unary 897 _ _ _ rfl (by decide)) <|
  Chain.cons (stepAt_binary 898 _ _ _ _ rfl (by decide) (by decide)) <|
  Chain.cons (stepAt_ternary 899 _ _ _ _ _ rfl (by decide) (by decide) (by decide)) <|
  Chain.cons (stepAt_unary 900 _ _ _ rfl (by decide)) <|
  Chain.cons (stepAt_unary 901 _ _ _ rfl (by decide)) <|
  Chain.cons (stepAt_binary 902 _ _ _ _ rfl (by decide) (by decide)) <|
  Chain.cons (stepAt_binary 903 _ _ _ _ rfl (by decide) (by decide)) <|
  Chain.cons (stepAt_nullary 904 _ _ rfl) <|
  Chain.cons (stepAt_unary 905 _ _ _ rfl (by decide)) <|
  Chain.cons (stepAt_binary 906 _ _ _ _ rfl (by decide) (by decide)) <|
  Chain.cons (stepAt_nullary 907 _ _ rfl) <|
  Chain.cons (stepAt_unary 908 _ _ _ rfl (by decide)) <|
  Chain.cons (stepAt_binary 909 _ _ _ _ rfl (by decide) (by decide)) <|
  Chain.cons (stepAt_ternary 910 _ _ _ _ _ rfl (by decide) (by decide) (by decide)) <|
  Chain.cons (stepAt_nullary 911 _ _ rfl) <|
  Chain.cons (stepAt_unary 912 _ _ _ rfl (by decide)) <|
  Chain.cons (stepAt_binary 913 _ _ _ _ rfl (by decide) (by decide)) <|
  Chain.cons (stepAt_nullary 914 _ _ rfl) <|
  Chain.cons (stepAt_unary 915 _ _ _ rfl (by decide)) <|
  Chain.cons (stepAt_binary 916 _ _ _ _ rfl (by decide) (by decide)) <|
  Chain.cons (stepAt_ternary 917 _ _ _ _ _ rfl (by decide) (by decide) (by decide)) <|
  Chain.cons (stepAt_unary 918 _ _ _ rfl (by decide)) <|
  Chain.cons (stepAt_unary 919 _ _ _ rfl (by decide)) <|
  Chain.cons (stepAt_binary 920 _ _ _ _ rfl (by decide) (by decide)) <|
  Chain.cons (stepAt_binary 921 _ _ _ _ rfl (by decide) (by decide)) <|
  Chain.cons (stepAt_nullary 922 _ _ rfl) <|
  Chain.cons (stepAt_unary 923 _ _ _ rfl (by decide)) <|
  Chain.cons (stepAt_binary 924 _ _ _ _ rfl (by decide) (by decide)) <|
  Chain.cons (stepAt_nullary 925 _ _ rfl) <|
  Chain.cons (stepAt_unary 926 _ _ _ rfl (by decide)) <|
  Chain.cons (stepAt_binary 927 _ _ _ _ rfl (by decide) (by decide)) <|
  Chain.cons (stepAt_ternary 928 _ _ _ _ _ rfl (by decide) (by decide) (by decide)) <|
  Chain.cons (stepAt_nullary 929 _ _ rfl) <|
  Chain.cons (stepAt_unary 930 _ _ _ rfl (by decide)) <|
  Chain.cons (stepAt_binary 931 _ _ _ _ rfl (by decide) (by decide)) <|
  Chain.cons (stepAt_nullary 932 _ _ rfl) <|
  Chain.cons (stepAt_unary 933 _ _ _ rfl (by decide)) <|
  Chain.cons (stepAt_binary 934 _ _ _ _ rfl (by decide) (by decide)) <|
  Chain.cons (stepAt_ternary 935 _ _ _ _ _ rfl (by decide) (by decide) (by decide)) <|
  Chain.cons (stepAt_unary 936 _ _ _ rfl (by decide)) <|
  Chain.cons (stepAt_unary 937 _ _ _ rfl (by decide)) <|
  Chain.cons (stepAt_binary 938 _ _ _ _ rfl (by decide) (by decide)) <|
  Chain.cons (stepAt_binary 939 _ _ _ _ rfl (by decide) (by decide)) <|
  Chain.cons (stepAt_nullary 940 _ _ rfl) <|
  Chain.cons (stepAt_unary 941 _ _ _ rfl (by decide)) <|
  Chain.cons (stepAt_binary 942 _ _ _ _ rfl (by decide) (by decide)) <|
  Chain.cons (stepAt_nullary 943 _ _ rfl) <|
  Chain.cons (stepAt_unary 944 _ _ _ rfl (by decide)) <|
  Chain.cons (stepAt_binary 945 _ _ _ _ rfl (by decide) (by decide)) <|
  Chain.cons (stepAt_ternary 946 _ _ _ _ _ rfl (by decide) (by decide) (by decide)) <|
  Chain.cons (stepAt_nullary 947 _ _ rfl) <|
  Chain.cons (stepAt_unary 948 _ _ _ rfl (by decide)) <|
  Chain.cons (stepAt_binary 949 _ _ _ _ rfl (by decide) (by decide)) <|
  Chain.cons (stepAt_nullary 950 _ _ rfl) <|
  Chain.cons (stepAt_unary 951 _ _ _ rfl (by decide)) <|
  Chain.cons (stepAt_binary 952 _ _ _ _ rfl (by decide) (by decide)) <|
  Chain.cons (stepAt_ternary 953 _ _ _ _ _ rfl (by decide) (by decide) (by decide)) <|
  Chain.cons (stepAt_unary 954 _ _ _ rfl (by decide)) <|
  Chain.cons (stepAt_unary 955 _ _ _ rfl (by decide)) <|
  Chain.cons (stepAt_binary 956 _ _ _ _ rfl (by decide) (by decide)) <|
  Chain.cons (stepAt_binary 957 _ _ _ _ rfl (by decide) (by decide)) <|
  Chain.cons (stepAt_nullary 958 _ _ rfl) <|
  Chain.cons (stepAt_unary 959 _ _ _ rfl (by decide)) <|
  Chain.cons (stepAt_binary 960 _ _ _ _ rfl (by decide) (by decide)) <|
  Chain.cons (stepAt_unary 961 _ _ _ rfl (by decide)) <|
  Chain.cons (stepAt_unary 962 _ _ _ rfl (by decide)) <|
  Chain.cons (stepAt_binary 963 _ _ _ _ rfl (by decide) (by decide)) <|
  Chain.cons (stepAt_nullary 964 _ _ rfl) <|
  Chain.cons (stepAt_unary 965 _ _ _ rfl (by decide)) <|
  Chain.cons (stepAt_binary 966 _ _ _ _ rfl (by decide) (by decide)) <|
  Chain.cons (stepAt_unary 967 _ _ _ rfl (by decide)) <|
  Chain.cons (stepAt_unary 968 _ _ _ rfl (by decide)) <|
  Chain.cons (stepAt_binary 969 _ _ _ _ rfl (by decide) (by decide)) <|
  Chain.cons (stepAt_unary 970 _ _ _ rfl (by decide)) <|
  Chain.cons (stepAt_unary 971 _ _ _ rfl (by decide)) <|
  Chain.cons (stepAt_binary 972 _ _ _ _ rfl (by decide) (by decide)) <|
  Chain.cons (stepAt_nullary 973 _ _ rfl) <|
  Chain.cons (stepAt_unary 974 _ _ _ rfl (by decide)) <|
  Chain.cons (stepAt_binary 975 _ _ _ _ rfl (by decide) (by decide)) <|
  Chain.cons (stepAt_unary 976 _ _ _ rfl (by decide)) <|
  Chain.cons (stepAt_unary 977 _ _ _ rfl (by decide)) <|
  Chain.cons (stepAt_binary 978 _ _ _ _ rfl (by decide) (by decide)) <|
  Chain.cons (stepAt_binary 979 _ _ _ _ rfl (by decide) (by decide)) <|
  Chain.cons (stepAt_nullary 980 _ _ rfl) <|
  Chain.cons (stepAt_unary 981 _ _ _ rfl (by decide)) <|
  Chain.cons (stepAt_binary 982 _ _ _ _ rfl (by decide) (by decide)) <|
  Chain.cons (stepAt_unary 983 _ _ _ rfl (by decide)) <|
  Chain.cons (stepAt_unary 984 _ _ _ rfl (by decide)) <|
  Chain.cons (stepAt_binary 985 _ _ _ _ rfl (by decide) (by decide)) <|
  Chain.cons (stepAt_unary 986 _ _ _ rfl (by decide)) <|
  Chain.cons (stepAt_unary 987 _ _ _ rfl (by decide)) <|
  Chain.cons (stepAt_binary 988 _ _ _ _ rfl (by decide) (by decide)) <|
  Chain.cons (stepAt_binary 989 _ _ _ _ rfl (by decide) (by decide)) <|
  Chain.cons (stepAt_unary 990 _ _ _ rfl (by decide)) <|
  Chain.cons (stepAt_unary 991 _ _ _ rfl (by decide)) <|
  Chain.cons (stepAt_binary 992 _ _ _ _ rfl (by decide) (by decide)) <|
  Chain.cons (stepAt_unary 993 _ _ _ rfl (by decide)) <|
  Chain.cons (stepAt_unary 994 _ _ _ rfl (by decide)) <|
  Chain.cons (stepAt_binary 995 _ _ _ _ rfl (by decide) (by decide)) <|
  Chain.cons (stepAt_binary 996 _ _ _ _ rfl (by decide) (by decide)) <|
  Chain.cons (stepAt_unary 997 _ _ _ rfl (by decide)) <|
  Chain.cons (stepAt_nullary 998 _ _ rfl) <|
  Chain.cons (stepAt_unary 999 _ _ _ rfl (by decide)) <|
  Chain.cons (stepAt_binary 1000 _ _ _ _ rfl (by decide) (by decide)) <|
  Chain.cons (stepAt_nullary 1001 _ _ rfl) <|
  Chain.cons (stepAt_unary 1002 _ _ _ rfl (by decide)) <|
  Chain.cons (stepAt_binary 1003 _ _ _ _ rfl (by decide) (by decide)) <|
  Chain.cons (stepAt_ternary 1004 _ _ _ _ _ rfl (by decide) (by decide) (by decide)) <|
  Chain.cons (stepAt_unary 1005 _ _ _ rfl (by decide)) <|
  Chain.cons (stepAt_binary 1006 _ _ _ _ rfl (by decide) (by decide)) <|
  Chain.cons (stepAt_unary 1007 _ _ _ rfl (by decide)) <|
  Chain.cons (stepAt_reshape 1008 _ _ _ _ rfl (by decide)) <|
  Chain.cons (stepAt_nullary 1009 _ _ rfl) <|
  Chain.cons (stepAt_unary 1010 _ _ _ rfl (by decide)) <|
  Chain.cons (stepAt_binary 1011 _ _ _ _ rfl (by decide) (by decide)) <|
  Chain.cons (stepAt_nullary 1012 _ _ rfl) <|
  Chain.cons (stepAt_unary 1013 _ _ _ rfl (by decide)) <|
  Chain.cons (stepAt_binary 1014 _ _ _ _ rfl (by decide) (by decide)) <|
  Chain.cons (stepAt_nullary 1015 _ _ rfl) <|
  Chain.cons (stepAt_unary 1016 _ _ _ rfl (by decide)) <|
  Chain.cons (stepAt_binary 1017 _ _ _ _ rfl (by decide) (by decide)) <|
  Chain.cons (stepAt_unary 1018 _ _ _ rfl (by decide)) <|
  Chain.cons (stepAt_reshape 1019 _ _ _ _ rfl (by decide)) <|
  Chain.cons (stepAt_nullary 1020 _ _ rfl) <|
  Chain.cons (stepAt_unary 1021 _ _ _ rfl (by decide)) <|
  Chain.cons (stepAt_binary 1022 _ _ _ _ rfl (by decide) (by decide)) <|
  Chain.cons (stepAt_nullary 1023 _ _ rfl) <|
  Chain.cons (stepAt_unary 1024 _ _ _ rfl (by decide)) <|
  Chain.cons (stepAt_binary 1025 _ _ _ _ rfl (by decide) (by decide)) <|
  Chain.cons (stepAt_nullary 1026 _ _ rfl) <|
  Chain.cons (stepAt_unary 1027 _ _ _ rfl (by decide)) <|
  Chain.cons (stepAt_binary 1028 _ _ _ _ rfl (by decide) (by decide)) <|
  Chain.cons (stepAt_unary 1029 _ _ _ rfl (by decide)) <|
  Chain.cons (stepAt_unary 1030 _ _ _ rfl (by decide)) <|
  Chain.cons (stepAt_binary 1031 _ _ _ _ rfl (by decide) (by decide)) <|
  Chain.cons (stepAt_binary 1032 _ _ _ _ rfl (by decide) (by decide)) <|
  Chain.cons (stepAt_unary 1033 _ _ _ rfl (by decide)) <|
  Chain.cons (stepAt_nullary 1034 _ _ rfl) <|
  Chain.cons (stepAt_nullary 1035 _ _ rfl) <|
  Chain.nil
theorem hostOps0_40_length : (hostOps0_40 : List (HloOp τ sig (Elt F))).length = 150 := rfl

set_option maxHeartbeats 4000000 in
/-- Operations 1008 … 1013 of the program, writing buffers 1036 … 1041. -/
theorem hostOps0_41_chain : Chain 1036 (hostOps0_41 : List (HloOp τ sig (Elt F))) :=
  Chain.cons (stepAt_unary 1036 _ _ _ rfl (by decide)) <|
  Chain.cons (stepAt_unary 1037 _ _ _ rfl (by decide)) <|
  Chain.cons (stepAt_binary 1038 _ _ _ _ rfl (by decide) (by decide)) <|
  Chain.cons (stepAt_unary 1039 _ _ _ rfl (by decide)) <|
  Chain.cons (stepAt_unary 1040 _ _ _ rfl (by decide)) <|
  Chain.cons (stepAt_binary 1041 _ _ _ _ rfl (by decide) (by decide)) <|
  Chain.nil
theorem hostOps0_41_length : (hostOps0_41 : List (HloOp τ sig (Elt F))).length = 6 := rfl

set_option maxHeartbeats 4000000 in
/-- Operations 1014 … 1018 of the program, writing buffers 1042 … 1046. -/
theorem hostOps0_42_chain : Chain 1042 (hostOps0_42 : List (HloOp τ sig (Elt F))) :=
  Chain.cons (stepAt_nullary 1042 _ _ rfl) <|
  Chain.cons (stepAt_unary 1043 _ _ _ rfl (by decide)) <|
  Chain.cons (stepAt_binary 1044 _ _ _ _ rfl (by decide) (by decide)) <|
  Chain.cons (stepAt_nullary 1045 _ _ rfl) <|
  Chain.cons (stepAt_nullary 1046 _ _ rfl) <|
  Chain.nil
theorem hostOps0_42_length : (hostOps0_42 : List (HloOp τ sig (Elt F))).length = 5 := rfl

set_option maxHeartbeats 4000000 in
/-- Operations 1019 … 1024 of the program, writing buffers 1047 … 1052. -/
theorem hostOps0_43_chain : Chain 1047 (hostOps0_43 : List (HloOp τ sig (Elt F))) :=
  Chain.cons (stepAt_unary 1047 _ _ _ rfl (by decide)) <|
  Chain.cons (stepAt_unary 1048 _ _ _ rfl (by decide)) <|
  Chain.cons (stepAt_binary 1049 _ _ _ _ rfl (by decide) (by decide)) <|
  Chain.cons (stepAt_unary 1050 _ _ _ rfl (by decide)) <|
  Chain.cons (stepAt_unary 1051 _ _ _ rfl (by decide)) <|
  Chain.cons (stepAt_binary 1052 _ _ _ _ rfl (by decide) (by decide)) <|
  Chain.nil
theorem hostOps0_43_length : (hostOps0_43 : List (HloOp τ sig (Elt F))).length = 6 := rfl

set_option maxHeartbeats 4000000 in
/-- Operations 1025 … 1027 of the program, writing buffers 1053 … 1055. -/
theorem hostOps0_44_chain : Chain 1053 (hostOps0_44 : List (HloOp τ sig (Elt F))) :=
  Chain.cons (stepAt_unary 1053 _ _ _ rfl (by decide)) <|
  Chain.cons (stepAt_nullary 1054 _ _ rfl) <|
  Chain.cons (stepAt_nullary 1055 _ _ rfl) <|
  Chain.nil
theorem hostOps0_44_length : (hostOps0_44 : List (HloOp τ sig (Elt F))).length = 3 := rfl

set_option maxHeartbeats 4000000 in
/-- Operations 1028 … 1033 of the program, writing buffers 1056 … 1061. -/
theorem hostOps0_45_chain : Chain 1056 (hostOps0_45 : List (HloOp τ sig (Elt F))) :=
  Chain.cons (stepAt_unary 1056 _ _ _ rfl (by decide)) <|
  Chain.cons (stepAt_unary 1057 _ _ _ rfl (by decide)) <|
  Chain.cons (stepAt_binary 1058 _ _ _ _ rfl (by decide) (by decide)) <|
  Chain.cons (stepAt_unary 1059 _ _ _ rfl (by decide)) <|
  Chain.cons (stepAt_unary 1060 _ _ _ rfl (by decide)) <|
  Chain.cons (stepAt_binary 1061 _ _ _ _ rfl (by decide) (by decide)) <|
  Chain.nil
theorem hostOps0_45_length : (hostOps0_45 : List (HloOp τ sig (Elt F))).length = 6 := rfl

set_option maxHeartbeats 4000000 in
/-- Operations 1034 … 1038 of the program, writing buffers 1062 … 1066. -/
theorem hostOps0_46_chain : Chain 1062 (hostOps0_46 : List (HloOp τ sig (Elt F))) :=
  Chain.cons (stepAt_nullary 1062 _ _ rfl) <|
  Chain.cons (stepAt_unary 1063 _ _ _ rfl (by decide)) <|
  Chain.cons (stepAt_binary 1064 _ _ _ _ rfl (by decide) (by decide)) <|
  Chain.cons (stepAt_nullary 1065 _ _ rfl) <|
  Chain.cons (stepAt_nullary 1066 _ _ rfl) <|
  Chain.nil
theorem hostOps0_46_length : (hostOps0_46 : List (HloOp τ sig (Elt F))).length = 5 := rfl

set_option maxHeartbeats 4000000 in
/-- Operations 1039 … 1044 of the program, writing buffers 1067 … 1072. -/
theorem hostOps0_47_chain : Chain 1067 (hostOps0_47 : List (HloOp τ sig (Elt F))) :=
  Chain.cons (stepAt_unary 1067 _ _ _ rfl (by decide)) <|
  Chain.cons (stepAt_unary 1068 _ _ _ rfl (by decide)) <|
  Chain.cons (stepAt_binary 1069 _ _ _ _ rfl (by decide) (by decide)) <|
  Chain.cons (stepAt_unary 1070 _ _ _ rfl (by decide)) <|
  Chain.cons (stepAt_unary 1071 _ _ _ rfl (by decide)) <|
  Chain.cons (stepAt_binary 1072 _ _ _ _ rfl (by decide) (by decide)) <|
  Chain.nil
theorem hostOps0_47_length : (hostOps0_47 : List (HloOp τ sig (Elt F))).length = 6 := rfl

set_option maxHeartbeats 4000000 in
/-- Operations 1045 … 1194 of the program, writing buffers 1073 … 1222. -/
theorem hostOps0_48_chain : Chain 1073 (hostOps0_48 : List (HloOp τ sig (Elt F))) :=
  Chain.cons (stepAt_nullary 1073 _ _ rfl) <|
  Chain.cons (stepAt_unary 1074 _ _ _ rfl (by decide)) <|
  Chain.cons (stepAt_binary 1075 _ _ _ _ rfl (by decide) (by decide)) <|
  Chain.cons (stepAt_nullary 1076 _ _ rfl) <|
  Chain.cons (stepAt_unary 1077 _ _ _ rfl (by decide)) <|
  Chain.cons (stepAt_binary 1078 _ _ _ _ rfl (by decide) (by decide)) <|
  Chain.cons (stepAt_ternary 1079 _ _ _ _ _ rfl (by decide) (by decide) (by decide)) <|
  Chain.cons (stepAt_nullary 1080 _ _ rfl) <|
  Chain.cons (stepAt_unary 1081 _ _ _ rfl (by decide)) <|
  Chain.cons (stepAt_binary 1082 _ _ _ _ rfl (by decide) (by decide)) <|
  Chain.cons (stepAt_nullary 1083 _ _ rfl) <|
  Chain.cons (stepAt_unary 1084 _ _ _ rfl (by decide)) <|
  Chain.cons (stepAt_binary 1085 _ _ _ _ rfl (by decide) (by decide)) <|
  Chain.cons (stepAt_ternary 1086 _ _ _ _ _ rfl (by decide) (by decide) (by decide)) <|
  Chain.cons (stepAt_unary 1087 _ _ _ rfl (by decide)) <|
  Chain.cons (stepAt_unary 1088 _ _ _ rfl (by decide)) <|
  Chain.cons (stepAt_binary 1089 _ _ _ _ rfl (by decide) (by decide)) <|
  Chain.cons (stepAt_binary 1090 _ _ _ _ rfl (by decide) (by decide)) <|
  Chain.cons (stepAt_nullary 1091 _ _ rfl) <|
  Chain.cons (stepAt_unary 1092 _ _ _ rfl (by decide)) <|
  Chain.cons (stepAt_binary 1093 _ _ _ _ rfl (by decide) (by decide)) <|
  Chain.cons (stepAt_nullary 1094 _ _ rfl) <|
  Chain.cons (stepAt_unary 1095 _ _ _ rfl (by decide)) <|
  Chain.cons (stepAt_binary 1096 _ _ _ _ rfl (by decide) (by decide)) <|
  Chain.cons (stepAt_ternary 1097 _ _ _ _ _ rfl (by decide) (by decide) (by decide)) <|
  Chain.cons (stepAt_nullary 1098 _ _ rfl) <|
  Chain.cons (stepAt_unary 1099 _ _ _ rfl (by decide)) <|
  Chain.cons (stepAt_binary 1100 _ _ _ _ rfl (by decide) (by decide)) <|
  Chain.cons (stepAt_nullary 1101 _ _ rfl) <|
  Chain.cons (stepAt_unary 1102 _ _ _ rfl (by decide)) <|
  Chain.cons (stepAt_binary 1103 _ _ _ _ rfl (by decide) (by decide)) <|
  Chain.cons (stepAt_ternary 1104 _ _ _ _ _ rfl (by decide) (by decide) (by decide)) <|
  Chain.cons (stepAt_unary 1105 _ _ _ rfl (by decide)) <|
  Chain.cons (stepAt_unary 1106 _ _ _ rfl (by decide)) <|
  Chain.cons (stepAt_binary 1107 _ _ _ _ rfl (by decide) (by decide)) <|
  Chain.cons (stepAt_binary 1108 _ _ _ _ rfl (by decide) (by decide)) <|
  Chain.cons (stepAt_nullary 1109 _ _ rfl) <|
  Chain.cons (stepAt_unary 1110 _ _ _ rfl (by decide)) <|
  Chain.cons (stepAt_binary 1111 _ _ _ _ rfl (by decide) (by decide)) <|
  Chain.cons (stepAt_nullary 1112 _ _ rfl) <|
  Chain.cons (stepAt_unary 1113 _ _ _ rfl (by decide)) <|
  Chain.cons (stepAt_binary 1114 _ _ _ _ rfl (by decide) (by decide)) <|
  Chain.cons (stepAt_ternary 1115 _ _ _ _ _ rfl (by decide) (by decide) (by decide)) <|
  Chain.cons (stepAt_nullary 1116 _ _ rfl) <|
  Chain.cons (stepAt_unary 1117 _ _ _ rfl (by decide)) <|
  Chain.cons (stepAt_binary 1118 _ _ _ _ rfl (by decide) (by decide)) <|
  Chain.cons (stepAt_nullary 1119 _ _ rfl) <|
  Chain.cons (stepAt_unary 1120 _ _ _ rfl (by decide)) <|
  Chain.cons (stepAt_binary 1121 _ _ _ _ rfl (by decide) (by decide)) <|
  Chain.cons (stepAt_ternary 1122 _ _ _ _ _ rfl (by decide) (by decide) (by decide)) <|
  Chain.cons (stepAt_unary 1123 _ _ _ rfl (by decide)) <|
  Chain.cons (stepAt_unary 1124 _ _ _ rfl (by decide)) <|
  Chain.cons (stepAt_binary 1125 _ _ _ _ rfl (by decide) (by decide)) <|
  Chain.cons (stepAt_binary 1126 _ _ _ _ rfl (by decide) (by decide)) <|
  Chain.cons (stepAt_nullary 1127 _ _ rfl) <|
  Chain.cons (stepAt_unary 1128 _ _ _ rfl (by decide)) <|
  Chain.cons (stepAt_binary 1129 _ _ _ _ rfl (by decide) (by decide)) <|
  Chain.cons (stepAt_nullary 1130 _ _ rfl) <|
  Chain.cons (stepAt_unary 1131 _ _ _ rfl (by decide)) <|
  Chain.cons (stepAt_binary 1132 _ _ _ _ rfl (by decide) (by decide)) <|
  Chain.cons (stepAt_ternary 1133 _ _ _ _ _ rfl (by decide) (by decide) (by decide)) <|
  Chain.cons (stepAt_nullary 1134 _ _ rfl) <|
  Chain.cons (stepAt_unary 1135 _ _ _ rfl (by decide)) <|
  Chain.cons (stepAt_binary 1136 _ _ _ _ rfl (by decide) (by decide)) <|
  Chain.cons (stepAt_nullary 1137 _ _ rfl) <|
  Chain.cons (stepAt_unary 1138 _ _ _ rfl (by decide)) <|
  Chain.cons (stepAt_binary 1139 _ _ _ _ rfl (by decide) (by decide)) <|
  Chain.cons (stepAt_ternary 1140 _ _ _ _ _ rfl (by decide) (by decide) (by decide)) <|
  Chain.cons (stepAt_unary 1141 _ _ _ rfl (by decide)) <|
  Chain.cons (stepAt_unary 1142 _ _ _ rfl (by decide)) <|
  Chain.cons (stepAt_binary 1143 _ _ _ _ rfl (by decide) (by decide)) <|
  Chain.cons (stepAt_binary 1144 _ _ _ _ rfl (by decide) (by decide)) <|
  Chain.cons (stepAt_nullary 1145 _ _ rfl) <|
  Chain.cons (stepAt_unary 1146 _ _ _ rfl (by decide)) <|
  Chain.cons (stepAt_binary 1147 _ _ _ _ rfl (by decide) (by decide)) <|
  Chain.cons (stepAt_unary 1148 _ _ _ rfl (by decide)) <|
  Chain.cons (stepAt_unary 1149 _ _ _ rfl (by decide)) <|
  Chain.cons (stepAt_binary 1150 _ _ _ _ rfl (by decide) (by decide)) <|
  Chain.cons (stepAt_nullary 1151 _ _ rfl) <|
  Chain.cons (stepAt_unary 1152 _ _ _ rfl (by decide)) <|
  Chain.cons (stepAt_binary 1153 _ _ _ _ rfl (by decide) (by decide)) <|
  Chain.cons (stepAt_unary 1154 _ _ _ rfl (by decide)) <|
  Chain.cons (stepAt_unary 1155 _ _ _ rfl (by decide)) <|
  Chain.cons (stepAt_binary 1156 _ _ _ _ rfl (by decide) (by decide)) <|
  Chain.cons (stepAt_unary 1157 _ _ _ rfl (by decide)) <|
  Chain.cons (stepAt_unary 1158 _ _ _ rfl (by decide)) <|
  Chain.cons (stepAt_binary 1159 _ _ _ _ rfl (by decide) (by decide)) <|
  Chain.cons (stepAt_nullary 1160 _ _ rfl) <|
  Chain.cons (stepAt_unary 1161 _ _ _ rfl (by decide)) <|
  Chain.cons (stepAt_binary 1162 _ _ _ _ rfl (by decide) (by decide)) <|
  Chain.cons (stepAt_unary 1163 _ _ _ rfl (by decide)) <|
  Chain.cons (stepAt_unary 1164 _ _ _ rfl (by decide)) <|
  Chain.cons (stepAt_binary 1165 _ _ _ _ rfl (by decide) (by decide)) <|
  Chain.cons (stepAt_binary 1166 _ _ _ _ rfl (by decide) (by decide)) <|
  Chain.cons (stepAt_nullary 1167 _ _ rfl) <|
  Chain.cons (stepAt_unary 1168 _ _ _ rfl (by decide)) <|
  Chain.cons (stepAt_binary 1169 _ _ _ _ rfl (by decide) (by decide)) <|
  Chain.cons (stepAt_unary 1170 _ _ _ rfl (by decide)) <|
  Chain.cons (stepAt_unary 1171 _ _ _ rfl (by decide)) <|
  Chain.cons (stepAt_binary 1172 _ _ _ _ rfl (by decide) (by decide)) <|
  Chain.cons (stepAt_unary 1173 _ _ _ rfl (by decide)) <|
  Chain.cons (stepAt_unary 1174 _ _ _ rfl (by decide)) <|
  Chain.cons (stepAt_binary 1175 _ _ _ _ rfl (by decide) (by decide)) <|
  Chain.cons (stepAt_binary 1176 _ _ _ _ rfl (by decide) (by decide)) <|
  Chain.cons (stepAt_unary 1177 _ _ _ rfl (by decide)) <|
  Chain.cons (stepAt_unary 1178 _ _ _ rfl (by decide)) <|
  Chain.cons (stepAt_binary 1179 _ _ _ _ rfl (by decide) (by decide)) <|
  Chain.cons (stepAt_unary 1180 _ _ _ rfl (by decide)) <|
  Chain.cons (stepAt_unary 1181 _ _ _ rfl (by decide)) <|
  Chain.cons (stepAt_binary 1182 _ _ _ _ rfl (by decide) (by decide)) <|
  Chain.cons (stepAt_binary 1183 _ _ _ _ rfl (by decide) (by decide)) <|
  Chain.cons (stepAt_unary 1184 _ _ _ rfl (by decide)) <|
  Chain.cons (stepAt_nullary 1185 _ _ rfl) <|
  Chain.cons (stepAt_unary 1186 _ _ _ rfl (by decide)) <|
  Chain.cons (stepAt_binary 1187 _ _ _ _ rfl (by decide) (by decide)) <|
  Chain.cons (stepAt_nullary 1188 _ _ rfl) <|
  Chain.cons (stepAt_unary 1189 _ _ _ rfl (by decide)) <|
  Chain.cons (stepAt_binary 1190 _ _ _ _ rfl (by decide) (by decide)) <|
  Chain.cons (stepAt_ternary 1191 _ _ _ _ _ rfl (by decide) (by decide) (by decide)) <|
  Chain.cons (stepAt_unary 1192 _ _ _ rfl (by decide)) <|
  Chain.cons (stepAt_binary 1193 _ _ _ _ rfl (by decide) (by decide)) <|
  Chain.cons (stepAt_unary 1194 _ _ _ rfl (by decide)) <|
  Chain.cons (stepAt_reshape 1195 _ _ _ _ rfl (by decide)) <|
  Chain.cons (stepAt_nullary 1196 _ _ rfl) <|
  Chain.cons (stepAt_unary 1197 _ _ _ rfl (by decide)) <|
  Chain.cons (stepAt_binary 1198 _ _ _ _ rfl (by decide) (by decide)) <|
  Chain.cons (stepAt_nullary 1199 _ _ rfl) <|
  Chain.cons (stepAt_unary 1200 _ _ _ rfl (by decide)) <|
  Chain.cons (stepAt_binary 1201 _ _ _ _ rfl (by decide) (by decide)) <|
  Chain.cons (stepAt_nullary 1202 _ _ rfl) <|
  Chain.cons (stepAt_unary 1203 _ _ _ rfl (by decide)) <|
  Chain.cons (stepAt_binary 1204 _ _ _ _ rfl (by decide) (by decide)) <|
  Chain.cons (stepAt_unary 1205 _ _ _ rfl (by decide)) <|
  Chain.cons (stepAt_reshape 1206 _ _ _ _ rfl (by decide)) <|
  Chain.cons (stepAt_nullary 1207 _ _ rfl) <|
  Chain.cons (stepAt_unary 1208 _ _ _ rfl (by decide)) <|
  Chain.cons (stepAt_binary 1209 _ _ _ _ rfl (by decide) (by decide)) <|
  Chain.cons (stepAt_nullary 1210 _ _ rfl) <|
  Chain.cons (stepAt_unary 1211 _ _ _ rfl (by decide)) <|
  Chain.cons (stepAt_binary 1212 _ _ _ _ rfl (by decide) (by decide)) <|
  Chain.cons (stepAt_nullary 1213 _ _ rfl) <|
  Chain.cons (stepAt_unary 1214 _ _ _ rfl (by decide)) <|
  Chain.cons (stepAt_binary 1215 _ _ _ _ rfl (by decide) (by decide)) <|
  Chain.cons (stepAt_unary 1216 _ _ _ rfl (by decide)) <|
  Chain.cons (stepAt_unary 1217 _ _ _ rfl (by decide)) <|
  Chain.cons (stepAt_binary 1218 _ _ _ _ rfl (by decide) (by decide)) <|
  Chain.cons (stepAt_binary 1219 _ _ _ _ rfl (by decide) (by decide)) <|
  Chain.cons (stepAt_unary 1220 _ _ _ rfl (by decide)) <|
  Chain.cons (stepAt_nullary 1221 _ _ rfl) <|
  Chain.cons (stepAt_nullary 1222 _ _ rfl) <|
  Chain.nil
theorem hostOps0_48_length : (hostOps0_48 : List (HloOp τ sig (Elt F))).length = 150 := rfl

set_option maxHeartbeats 4000000 in
/-- Operations 1195 … 1200 of the program, writing buffers 1223 … 1228. -/
theorem hostOps0_49_chain : Chain 1223 (hostOps0_49 : List (HloOp τ sig (Elt F))) :=
  Chain.cons (stepAt_unary 1223 _ _ _ rfl (by decide)) <|
  Chain.cons (stepAt_unary 1224 _ _ _ rfl (by decide)) <|
  Chain.cons (stepAt_binary 1225 _ _ _ _ rfl (by decide) (by decide)) <|
  Chain.cons (stepAt_unary 1226 _ _ _ rfl (by decide)) <|
  Chain.cons (stepAt_unary 1227 _ _ _ rfl (by decide)) <|
  Chain.cons (stepAt_binary 1228 _ _ _ _ rfl (by decide) (by decide)) <|
  Chain.nil
theorem hostOps0_49_length : (hostOps0_49 : List (HloOp τ sig (Elt F))).length = 6 := rfl

set_option maxHeartbeats 4000000 in
/-- Operations 1201 … 1205 of the program, writing buffers 1229 … 1233. -/
theorem hostOps0_50_chain : Chain 1229 (hostOps0_50 : List (HloOp τ sig (Elt F))) :=
  Chain.cons (stepAt_nullary 1229 _ _ rfl) <|
  Chain.cons (stepAt_unary 1230 _ _ _ rfl (by decide)) <|
  Chain.cons (stepAt_binary 1231 _ _ _ _ rfl (by decide) (by decide)) <|
  Chain.cons (stepAt_nullary 1232 _ _ rfl) <|
  Chain.cons (stepAt_nullary 1233 _ _ rfl) <|
  Chain.nil
theorem hostOps0_50_length : (hostOps0_50 : List (HloOp τ sig (Elt F))).length = 5 := rfl

set_option maxHeartbeats 4000000 in
/-- Operations 1206 … 1211 of the program, writing buffers 1234 … 1239. -/
theorem hostOps0_51_chain : Chain 1234 (hostOps0_51 : List (HloOp τ sig (Elt F))) :=
  Chain.cons (stepAt_unary 1234 _ _ _ rfl (by decide)) <|
  Chain.cons (stepAt_unary 1235 _ _ _ rfl (by decide)) <|
  Chain.cons (stepAt_binary 1236 _ _ _ _ rfl (by decide) (by decide)) <|
  Chain.cons (stepAt_unary 1237 _ _ _ rfl (by decide)) <|
  Chain.cons (stepAt_unary 1238 _ _ _ rfl (by decide)) <|
  Chain.cons (stepAt_binary 1239 _ _ _ _ rfl (by decide) (by decide)) <|
  Chain.nil
theorem hostOps0_51_length : (hostOps0_51 : List (HloOp τ sig (Elt F))).length = 6 := rfl

set_option maxHeartbeats 4000000 in
/-- Operations 1212 … 1214 of the program, writing buffers 1240 … 1242. -/
theorem hostOps0_52_chain : Chain 1240 (hostOps0_52 : List (HloOp τ sig (Elt F))) :=
  Chain.cons (stepAt_unary 1240 _ _ _ rfl (by decide)) <|
  Chain.cons (stepAt_nullary 1241 _ _ rfl) <|
  Chain.cons (stepAt_nullary 1242 _ _ rfl) <|
  Chain.nil
theorem hostOps0_52_length : (hostOps0_52 : List (HloOp τ sig (Elt F))).length = 3 := rfl

set_option maxHeartbeats 4000000 in
/-- Operations 1215 … 1220 of the program, writing buffers 1243 … 1248. -/
theorem hostOps0_53_chain : Chain 1243 (hostOps0_53 : List (HloOp τ sig (Elt F))) :=
  Chain.cons (stepAt_unary 1243 _ _ _ rfl (by decide)) <|
  Chain.cons (stepAt_unary 1244 _ _ _ rfl (by decide)) <|
  Chain.cons (stepAt_binary 1245 _ _ _ _ rfl (by decide) (by decide)) <|
  Chain.cons (stepAt_unary 1246 _ _ _ rfl (by decide)) <|
  Chain.cons (stepAt_unary 1247 _ _ _ rfl (by decide)) <|
  Chain.cons (stepAt_binary 1248 _ _ _ _ rfl (by decide) (by decide)) <|
  Chain.nil
theorem hostOps0_53_length : (hostOps0_53 : List (HloOp τ sig (Elt F))).length = 6 := rfl

set_option maxHeartbeats 4000000 in
/-- Operations 1221 … 1225 of the program, writing buffers 1249 … 1253. -/
theorem hostOps0_54_chain : Chain 1249 (hostOps0_54 : List (HloOp τ sig (Elt F))) :=
  Chain.cons (stepAt_nullary 1249 _ _ rfl) <|
  Chain.cons (stepAt_unary 1250 _ _ _ rfl (by decide)) <|
  Chain.cons (stepAt_binary 1251 _ _ _ _ rfl (by decide) (by decide)) <|
  Chain.cons (stepAt_nullary 1252 _ _ rfl) <|
  Chain.cons (stepAt_nullary 1253 _ _ rfl) <|
  Chain.nil
theorem hostOps0_54_length : (hostOps0_54 : List (HloOp τ sig (Elt F))).length = 5 := rfl

set_option maxHeartbeats 4000000 in
/-- Operations 1226 … 1231 of the program, writing buffers 1254 … 1259. -/
theorem hostOps0_55_chain : Chain 1254 (hostOps0_55 : List (HloOp τ sig (Elt F))) :=
  Chain.cons (stepAt_unary 1254 _ _ _ rfl (by decide)) <|
  Chain.cons (stepAt_unary 1255 _ _ _ rfl (by decide)) <|
  Chain.cons (stepAt_binary 1256 _ _ _ _ rfl (by decide) (by decide)) <|
  Chain.cons (stepAt_unary 1257 _ _ _ rfl (by decide)) <|
  Chain.cons (stepAt_unary 1258 _ _ _ rfl (by decide)) <|
  Chain.cons (stepAt_binary 1259 _ _ _ _ rfl (by decide) (by decide)) <|
  Chain.nil
theorem hostOps0_55_length : (hostOps0_55 : List (HloOp τ sig (Elt F))).length = 6 := rfl

set_option maxHeartbeats 4000000 in
/-- Operations 1232 … 1381 of the program, writing buffers 1260 … 1409. -/
theorem hostOps0_56_chain : Chain 1260 (hostOps0_56 : List (HloOp τ sig (Elt F))) :=
  Chain.cons (stepAt_nullary 1260 _ _ rfl) <|
  Chain.cons (stepAt_unary 1261 _ _ _ rfl (by decide)) <|
  Chain.cons (stepAt_binary 1262 _ _ _ _ rfl (by decide) (by decide)) <|
  Chain.cons (stepAt_nullary 1263 _ _ rfl) <|
  Chain.cons (stepAt_unary 1264 _ _ _ rfl (by decide)) <|
  Chain.cons (stepAt_binary 1265 _ _ _ _ rfl (by decide) (by decide)) <|
  Chain.cons (stepAt_ternary 1266 _ _ _ _ _ rfl (by decide) (by decide) (by decide)) <|
  Chain.cons (stepAt_nullary 1267 _ _ rfl) <|
  Chain.cons (stepAt_unary 1268 _ _ _ rfl (by decide)) <|
  Chain.cons (stepAt_binary 1269 _ _ _ _ rfl (by decide) (by decide)) <|
  Chain.cons (stepAt_nullary 1270 _ _ rfl) <|
  Chain.cons (stepAt_unary 1271 _ _ _ rfl (by decide)) <|
  Chain.cons (stepAt_binary 1272 _ _ _ _ rfl (by decide) (by decide)) <|
  Chain.cons (stepAt_ternary 1273 _ _ _ _ _ rfl (by decide) (by decide) (by decide)) <|
  Chain.cons (stepAt_unary 1274 _ _ _ rfl (by decide)) <|
  Chain.cons (stepAt_unary 1275 _ _ _ rfl (by decide)) <|
  Chain.cons (stepAt_binary 1276 _ _ _ _ rfl (by decide) (by decide)) <|
  Chain.cons (stepAt_binary 1277 _ _ _ _ rfl (by decide) (by decide)) <|
  Chain.cons (stepAt_nullary 1278 _ _ rfl) <|
  Chain.cons (stepAt_unary 1279 _ _ _ rfl (by decide)) <|
  Chain.cons (stepAt_binary 1280 _ _ _ _ rfl (by decide) (by decide)) <|
  Chain.cons (stepAt_nullary 1281 _ _ rfl) <|
  Chain.cons (stepAt_unary 1282 _ _ _ rfl (by decide)) <|
  Chain.cons (stepAt_binary 1283 _ _ _ _ rfl (by decide) (by decide)) <|
  Chain.cons (stepAt_ternary 1284 _ _ _ _ _ rfl (by decide) (by decide) (by decide)) <|
  Chain.cons (stepAt_nullary 1285 _ _ rfl) <|
  Chain.cons (stepAt_unary 1286 _ _ _ rfl (by decide)) <|
  Chain.cons (stepAt_binary 1287 _ _ _ _ rfl (by decide) (by decide)) <|
  Chain.cons (stepAt_nullary 1288 _ _ rfl) <|
  Chain.cons (stepAt_unary 1289 _ _ _ rfl (by decide)) <|
  Chain.cons (stepAt_binary 1290 _ _ _ _ rfl (by decide) (by decide)) <|
  Chain.cons (stepAt_ternary 1291 _ _ _ _ _ rfl (by decide) (by decide) (by decide)) <|
  Chain.cons (stepAt_unary 1292 _ _ _ rfl (by decide)) <|
  Chain.cons (stepAt_unary 1293 _ _ _ rfl (by decide)) <|
  Chain.cons (stepAt_binary 1294 _ _ _ _ rfl (by decide) (by decide)) <|
  Chain.cons (stepAt_binary 1295 _ _ _ _ rfl (by decide) (by decide)) <|
  Chain.cons (stepAt_nullary 1296 _ _ rfl) <|
  Chain.cons (stepAt_unary 1297 _ _ _ rfl (by decide)) <|
  Chain.cons (stepAt_binary 1298 _ _ _ _ rfl (by decide) (by decide)) <|
  Chain.cons (stepAt_nullary 1299 _ _ rfl) <|
  Chain.cons (stepAt_unary 1300 _ _ _ rfl (by decide)) <|
  Chain.cons (stepAt_binary 1301 _ _ _ _ rfl (by decide) (by decide)) <|
  Chain.cons (stepAt_ternary 1302 _ _ _ _ _ rfl (by decide) (by decide) (by decide)) <|
  Chain.cons (stepAt_nullary 1303 _ _ rfl) <|
  Chain.cons (stepAt_unary 1304 _ _ _ rfl (by decide)) <|
  Chain.cons (stepAt_binary 1305 _ _ _ _ rfl (by decide) (by decide)) <|
  Chain.cons (stepAt_nullary 1306 _ _ rfl) <|
  Chain.cons (stepAt_unary 1307 _ _ _ rfl (by decide)) <|
  Chain.cons (stepAt_binary 1308 _ _ _ _ rfl (by decide) (by decide)) <|
  Chain.cons (stepAt_ternary 1309 _ _ _ _ _ rfl (by decide) (by decide) (by decide)) <|
  Chain.cons (stepAt_unary 1310 _ _ _ rfl (by decide)) <|
  Chain.cons (stepAt_unary 1311 _ _ _ rfl (by decide)) <|
  Chain.cons (stepAt_binary 1312 _ _ _ _ rfl (by decide) (by decide)) <|
  Chain.cons (stepAt_binary 1313 _ _ _ _ rfl (by decide) (by decide)) <|
  Chain.cons (stepAt_nullary 1314 _ _ rfl) <|
  Chain.cons (stepAt_unary 1315 _ _ _ rfl (by decide)) <|
  Chain.cons (stepAt_binary 1316 _ _ _ _ rfl (by decide) (by decide)) <|
  Chain.cons (stepAt_nullary 1317 _ _ rfl) <|
  Chain.cons (stepAt_unary 1318 _ _ _ rfl (by decide)) <|
  Chain.cons (stepAt_binary 1319 _ _ _ _ rfl (by decide) (by decide)) <|
  Chain.cons (stepAt_ternary 1320 _ _ _ _ _ rfl (by decide) (by decide) (by decide)) <|
  Chain.cons (stepAt_nullary 1321 _ _ rfl) <|
  Chain.cons (stepAt_unary 1322 _ _ _ rfl (by decide)) <|
  Chain.cons (stepAt_binary 1323 _ _ _ _ rfl (by decide) (by decide)) <|
  Chain.cons (stepAt_nullary 1324 _ _ rfl) <|
  Chain.cons (stepAt_unary 1325 _ _ _ rfl (by decide)) <|
  Chain.cons (stepAt_binary 1326 _ _ _ _ rfl (by decide) (by decide)) <|
  Chain.cons (stepAt_ternary 1327 _ _ _ _ _ rfl (by decide) (by decide) (by decide)) <|
  Chain.cons (stepAt_unary 1328 _ _ _ rfl (by decide)) <|
  Chain.cons (stepAt_unary 1329 _ _ _ rfl (by decide)) <|
  Chain.cons (stepAt_binary 1330 _ _ _ _ rfl (by decide) (by decide)) <|
  Chain.cons (stepAt_binary 1331 _ _ _ _ rfl (by decide) (by decide)) <|
  Chain.cons (stepAt_nullary 1332 _ _ rfl) <|
  Chain.cons (stepAt_unary 1333 _ _ _ rfl (by decide)) <|
  Chain.cons (stepAt_binary 1334 _ _ _ _ rfl (by decide) (by decide)) <|
  Chain.cons (stepAt_unary 1335 _ _ _ rfl (by decide)) <|
  Chain.cons (stepAt_unary 1336 _ _ _ rfl (by decide)) <|
  Chain.cons (stepAt_binary 1337 _ _ _ _ rfl (by decide) (by decide)) <|
  Chain.cons (stepAt_nullary 1338 _ _ rfl) <|
  Chain.cons (stepAt_unary 1339 _ _ _ rfl (by decide)) <|
  Chain.cons (stepAt_binary 1340 _ _ _ _ rfl (by decide) (by decide)) <|
  Chain.cons (stepAt_unary 1341 _ _ _ rfl (by decide)) <|
  Chain.cons (stepAt_unary 1342 _ _ _ rfl (by decide)) <|
  Chain.cons (stepAt_binary 1343 _ _ _ _ rfl (by decide) (by decide)) <|
  Chain.cons (stepAt_unary 1344 _ _ _ rfl (by decide)) <|
  Chain.cons (stepAt_unary 1345 _ _ _ rfl (by decide)) <|
  Chain.cons (stepAt_binary 1346 _ _ _ _ rfl (by decide) (by decide)) <|
  Chain.cons (stepAt_nullary 1347 _ _ rfl) <|
  Chain.cons (stepAt_unary 1348 _ _ _ rfl (by decide)) <|
  Chain.cons (stepAt_binary 1349 _ _ _ _ rfl (by decide) (by decide)) <|
  Chain.cons (stepAt_unary 1350 _ _ _ rfl (by decide)) <|
  Chain.cons (stepAt_unary 1351 _ _ _ rfl (by decide)) <|
  Chain.cons (stepAt_binary 1352 _ _ _ _ rfl (by decide) (by decide)) <|
  Chain.cons (stepAt_binary 1353 _ _ _ _ rfl (by decide) (by decide)) <|
  Chain.cons (stepAt_nullary 1354 _ _ rfl) <|
  Chain.cons (stepAt_unary 1355 _ _ _ rfl (by decide)) <|
  Chain.cons (stepAt_binary 1356 _ _ _ _ rfl (by decide) (by decide)) <|
  Chain.cons (stepAt_unary 1357 _ _ _ rfl (by decide)) <|
  Chain.cons (stepAt_unary 1358 _ _ _ rfl (by decide)) <|
  Chain.cons (stepAt_binary 1359 _ _ _ _ rfl (by decide) (by decide)) <|
  Chain.cons (stepAt_unary 1360 _ _ _ rfl (by decide)) <|
  Chain.cons (stepAt_unary 1361 _ _ _ rfl (by decide)) <|
  Chain.cons (stepAt_binary 1362 _ _ _ _ rfl (by decide) (by decide)) <|
  Chain.cons (stepAt_binary 1363 _ _ _ _ rfl (by decide) (by decide)) <|
  Chain.cons (stepAt_unary 1364 _ _ _ rfl (by decide)) <|
  Chain.cons (stepAt_unary 1365 _ _ _ rfl (by decide)) <|
  Chain.cons (stepAt_binary 1366 _ _ _ _ rfl (by decide) (by decide)) <|
  Chain.cons (stepAt_unary 1367 _ _ _ rfl (by decide)) <|
  Chain.cons (stepAt_unary 1368 _ _ _ rfl (by decide)) <|
  Chain.cons (stepAt_binary 1369 _ _ _ _ rfl (by decide) (by decide)) <|
  Chain.cons (stepAt_binary 1370 _ _ _ _ rfl (by decide) (by decide)) <|
  Chain.cons (stepAt_unary 1371 _ _ _ rfl (by decide)) <|
  Chain.cons (stepAt_nullary 1372 _ _ rfl) <|
  Chain.cons (stepAt_unary 1373 _ _ _ rfl (by decide)) <|
  Chain.cons (stepAt_binary 1374 _ _ _ _ rfl (by decide) (by decide)) <|
  Chain.cons (stepAt_nullary 1375 _ _ rfl) <|
  Chain.cons (stepAt_unary 1376 _ _ _ rfl (by decide)) <|
  Chain.cons (stepAt_binary 1377 _ _ _ _ rfl (by decide) (by decide)) <|
  Chain.cons (stepAt_ternary 1378 _ _ _ _ _ rfl (by decide) (by decide) (by decide)) <|
  Chain.cons (stepAt_unary 1379 _ _ _ rfl (by decide)) <|
  Chain.cons (stepAt_binary 1380 _ _ _ _ rfl (by decide) (by decide)) <|
  Chain.cons (stepAt_unary 1381 _ _ _ rfl (by decide)) <|
  Chain.cons (stepAt_reshape 1382 _ _ _ _ rfl (by decide)) <|
  Chain.cons (stepAt_nullary 1383 _ _ rfl) <|
  Chain.cons (stepAt_unary 1384 _ _ _ rfl (by decide)) <|
  Chain.cons (stepAt_binary 1385 _ _ _ _ rfl (by decide) (by decide)) <|
  Chain.cons (stepAt_nullary 1386 _ _ rfl) <|
  Chain.cons (stepAt_unary 1387 _ _ _ rfl (by decide)) <|
  Chain.cons (stepAt_binary 1388 _ _ _ _ rfl (by decide) (by decide)) <|
  Chain.cons (stepAt_nullary 1389 _ _ rfl) <|
  Chain.cons (stepAt_unary 1390 _ _ _ rfl (by decide)) <|
  Chain.cons (stepAt_binary 1391 _ _ _ _ rfl (by decide) (by decide)) <|
  Chain.cons (stepAt_unary 1392 _ _ _ rfl (by decide)) <|
  Chain.cons (stepAt_reshape 1393 _ _ _ _ rfl (by decide)) <|
  Chain.cons (stepAt_nullary 1394 _ _ rfl) <|
  Chain.cons (stepAt_unary 1395 _ _ _ rfl (by decide)) <|
  Chain.cons (stepAt_binary 1396 _ _ _ _ rfl (by decide) (by decide)) <|
  Chain.cons (stepAt_nullary 1397 _ _ rfl) <|
  Chain.cons (stepAt_unary 1398 _ _ _ rfl (by decide)) <|
  Chain.cons (stepAt_binary 1399 _ _ _ _ rfl (by decide) (by decide)) <|
  Chain.cons (stepAt_nullary 1400 _ _ rfl) <|
  Chain.cons (stepAt_unary 1401 _ _ _ rfl (by decide)) <|
  Chain.cons (stepAt_binary 1402 _ _ _ _ rfl (by decide) (by decide)) <|
  Chain.cons (stepAt_unary 1403 _ _ _ rfl (by decide)) <|
  Chain.cons (stepAt_unary 1404 _ _ _ rfl (by decide)) <|
  Chain.cons (stepAt_binary 1405 _ _ _ _ rfl (by decide) (by decide)) <|
  Chain.cons (stepAt_binary 1406 _ _ _ _ rfl (by decide) (by decide)) <|
  Chain.cons (stepAt_unary 1407 _ _ _ rfl (by decide)) <|
  Chain.cons (stepAt_nullary 1408 _ _ rfl) <|
  Chain.cons (stepAt_nullary 1409 _ _ rfl) <|
  Chain.nil
theorem hostOps0_56_length : (hostOps0_56 : List (HloOp τ sig (Elt F))).length = 150 := rfl

set_option maxHeartbeats 4000000 in
/-- Operations 1382 … 1387 of the program, writing buffers 1410 … 1415. -/
theorem hostOps0_57_chain : Chain 1410 (hostOps0_57 : List (HloOp τ sig (Elt F))) :=
  Chain.cons (stepAt_unary 1410 _ _ _ rfl (by decide)) <|
  Chain.cons (stepAt_unary 1411 _ _ _ rfl (by decide)) <|
  Chain.cons (stepAt_binary 1412 _ _ _ _ rfl (by decide) (by decide)) <|
  Chain.cons (stepAt_unary 1413 _ _ _ rfl (by decide)) <|
  Chain.cons (stepAt_unary 1414 _ _ _ rfl (by decide)) <|
  Chain.cons (stepAt_binary 1415 _ _ _ _ rfl (by decide) (by decide)) <|
  Chain.nil
theorem hostOps0_57_length : (hostOps0_57 : List (HloOp τ sig (Elt F))).length = 6 := rfl

set_option maxHeartbeats 4000000 in
/-- Operations 1388 … 1392 of the program, writing buffers 1416 … 1420. -/
theorem hostOps0_58_chain : Chain 1416 (hostOps0_58 : List (HloOp τ sig (Elt F))) :=
  Chain.cons (stepAt_nullary 1416 _ _ rfl) <|
  Chain.cons (stepAt_unary 1417 _ _ _ rfl (by decide)) <|
  Chain.cons (stepAt_binary 1418 _ _ _ _ rfl (by decide) (by decide)) <|
  Chain.cons (stepAt_nullary 1419 _ _ rfl) <|
  Chain.cons (stepAt_nullary 1420 _ _ rfl) <|
  Chain.nil
theorem hostOps0_58_length : (hostOps0_58 : List (HloOp τ sig (Elt F))).length = 5 := rfl

set_option maxHeartbeats 4000000 in
/-- Operations 1393 … 1398 of the program, writing buffers 1421 … 1426. -/
theorem hostOps0_59_chain : Chain 1421 (hostOps0_59 : List (HloOp τ sig (Elt F))) :=
  Chain.cons (stepAt_unary 1421 _ _ _ rfl (by decide)) <|
  Chain.cons (stepAt_unary 1422 _ _ _ rfl (by decide)) <|
  Chain.cons (stepAt_binary 1423 _ _ _ _ rfl (by decide) (by decide)) <|
  Chain.cons (stepAt_unary 1424 _ _ _ rfl (by decide)) <|
  Chain.cons (stepAt_unary 1425 _ _ _ rfl (by decide)) <|
  Chain.cons (stepAt_binary 1426 _ _ _ _ rfl (by decide) (by decide)) <|
  Chain.nil
theorem hostOps0_59_length : (hostOps0_59 : List (HloOp τ sig (Elt F))).length = 6 := rfl

set_option maxHeartbeats 4000000 in
/-- Operations 1399 … 1401 of the program, writing buffers 1427 … 1429. -/
theorem hostOps0_60_chain : Chain 1427 (hostOps0_60 : List (HloOp τ sig (Elt F))) :=
  Chain.cons (stepAt_unary 1427 _ _ _ rfl (by decide)) <|
  Chain.cons (stepAt_nullary 1428 _ _ rfl) <|
  Chain.cons (stepAt_nullary 1429 _ _ rfl) <|
  Chain.nil
theorem hostOps0_60_length : (hostOps0_60 : List (HloOp τ sig (Elt F))).length = 3 := rfl

set_option maxHeartbeats 4000000 in
/-- Operations 1402 … 1407 of the program, writing buffers 1430 … 1435. -/
theorem hostOps0_61_chain : Chain 1430 (hostOps0_61 : List (HloOp τ sig (Elt F))) :=
  Chain.cons (stepAt_unary 1430 _ _ _ rfl (by decide)) <|
  Chain.cons (stepAt_unary 1431 _ _ _ rfl (by decide)) <|
  Chain.cons (stepAt_binary 1432 _ _ _ _ rfl (by decide) (by decide)) <|
  Chain.cons (stepAt_unary 1433 _ _ _ rfl (by decide)) <|
  Chain.cons (stepAt_unary 1434 _ _ _ rfl (by decide)) <|
  Chain.cons (stepAt_binary 1435 _ _ _ _ rfl (by decide) (by decide)) <|
  Chain.nil
theorem hostOps0_61_length : (hostOps0_61 : List (HloOp τ sig (Elt F))).length = 6 := rfl

set_option maxHeartbeats 4000000 in
/-- Operations 1408 … 1412 of the program, writing buffers 1436 … 1440. -/
theorem hostOps0_62_chain : Chain 1436 (hostOps0_62 : List (HloOp τ sig (Elt F))) :=
  Chain.cons (stepAt_nullary 1436 _ _ rfl) <|
  Chain.cons (stepAt_unary 1437 _ _ _ rfl (by decide)) <|
  Chain.cons (stepAt_binary 1438 _ _ _ _ rfl (by decide) (by decide)) <|
  Chain.cons (stepAt_nullary 1439 _ _ rfl) <|
  Chain.cons (stepAt_nullary 1440 _ _ rfl) <|
  Chain.nil
theorem hostOps0_62_length : (hostOps0_62 : List (HloOp τ sig (Elt F))).length = 5 := rfl

set_option maxHeartbeats 4000000 in
/-- Operations 1413 … 1418 of the program, writing buffers 1441 … 1446. -/
theorem hostOps0_63_chain : Chain 1441 (hostOps0_63 : List (HloOp τ sig (Elt F))) :=
  Chain.cons (stepAt_unary 1441 _ _ _ rfl (by decide)) <|
  Chain.cons (stepAt_unary 1442 _ _ _ rfl (by decide)) <|
  Chain.cons (stepAt_binary 1443 _ _ _ _ rfl (by decide) (by decide)) <|
  Chain.cons (stepAt_unary 1444 _ _ _ rfl (by decide)) <|
  Chain.cons (stepAt_unary 1445 _ _ _ rfl (by decide)) <|
  Chain.cons (stepAt_binary 1446 _ _ _ _ rfl (by decide) (by decide)) <|
  Chain.nil
theorem hostOps0_63_length : (hostOps0_63 : List (HloOp τ sig (Elt F))).length = 6 := rfl

set_option maxHeartbeats 4000000 in
/-- Operations 1419 … 1568 of the program, writing buffers 1447 … 1596. -/
theorem hostOps0_64_chain : Chain 1447 (hostOps0_64 : List (HloOp τ sig (Elt F))) :=
  Chain.cons (stepAt_nullary 1447 _ _ rfl) <|
  Chain.cons (stepAt_unary 1448 _ _ _ rfl (by decide)) <|
  Chain.cons (stepAt_binary 1449 _ _ _ _ rfl (by decide) (by decide)) <|
  Chain.cons (stepAt_nullary 1450 _ _ rfl) <|
  Chain.cons (stepAt_unary 1451 _ _ _ rfl (by decide)) <|
  Chain.cons (stepAt_binary 1452 _ _ _ _ rfl (by decide) (by decide)) <|
  Chain.cons (stepAt_ternary 1453 _ _ _ _ _ rfl (by decide) (by decide) (by decide)) <|
  Chain.cons (stepAt_nullary 1454 _ _ rfl) <|
  Chain.cons (stepAt_unary 1455 _ _ _ rfl (by decide)) <|
  Chain.cons (stepAt_binary 1456 _ _ _ _ rfl (by decide) (by decide)) <|
  Chain.cons (stepAt_nullary 1457 _ _ rfl) <|
  Chain.cons (stepAt_unary 1458 _ _ _ rfl (by decide)) <|
  Chain.cons (stepAt_binary 1459 _ _ _ _ rfl (by decide) (by decide)) <|
  Chain.cons (stepAt_ternary 1460 _ _ _ _ _ rfl (by decide) (by decide) (by decide)) <|
  Chain.cons (stepAt_unary 1461 _ _ _ rfl (by decide)) <|
  Chain.cons (stepAt_unary 1462 _ _ _ rfl (by decide)) <|
  Chain.cons (stepAt_binary 1463 _ _ _ _ rfl (by decide) (by decide)) <|
  Chain.cons (stepAt_binary 1464 _ _ _ _ rfl (by decide) (by decide)) <|
  Chain.cons (stepAt_nullary 1465 _ _ rfl) <|
  Chain.cons (stepAt_unary 1466 _ _ _ rfl (by decide)) <|
  Chain.cons (stepAt_binary 1467 _ _ _ _ rfl (by decide) (by decide)) <|
  Chain.cons (stepAt_nullary 1468 _ _ rfl) <|
  Chain.cons (stepAt_unary 1469 _ _ _ rfl (by decide)) <|
  Chain.cons (stepAt_binary 1470 _ _ _ _ rfl (by decide) (by decide)) <|
  Chain.cons (stepAt_ternary 1471 _ _ _ _ _ rfl (by decide) (by decide) (by decide)) <|
  Chain.cons (stepAt_nullary 1472 _ _ rfl) <|
  Chain.cons (stepAt_unary 1473 _ _ _ rfl (by decide)) <|
  Chain.cons (stepAt_binary 1474 _ _ _ _ rfl (by decide) (by decide)) <|
  Chain.cons (stepAt_nullary 1475 _ _ rfl) <|
  Chain.cons (stepAt_unary 1476 _ _ _ rfl (by decide)) <|
  Chain.cons (stepAt_binary 1477 _ _ _ _ rfl (by decide) (by decide)) <|
  Chain.cons (stepAt_ternary 1478 _ _ _ _ _ rfl (by decide) (by decide) (by decide)) <|
  Chain.cons (stepAt_unary 1479 _ _ _ rfl (by decide)) <|
  Chain.cons (stepAt_unary 1480 _ _ _ rfl (by decide)) <|
  Chain.cons (stepAt_binary 1481 _ _ _ _ rfl (by decide) (by decide)) <|
  Chain.cons (stepAt_binary 1482 _ _ _ _ rfl (by decide) (by decide)) <|
  Chain.cons (stepAt_nullary 1483 _ _ rfl) <|
  Chain.cons (stepAt_unary 1484 _ _ _ rfl (by decide)) <|
  Chain.cons (stepAt_binary 1485 _ _ _ _ rfl (by decide) (by decide)) <|
  Chain.cons (stepAt_nullary 1486 _ _ rfl) <|
  Chain.cons (stepAt_unary 1487 _ _ _ rfl (by decide)) <|
  Chain.cons (stepAt_binary 1488 _ _ _ _ rfl (by decide) (by decide)) <|
  Chain.cons (stepAt_ternary 1489 _ _ _ _ _ rfl (by decide) (by decide) (by decide)) <|
  Chain.cons (stepAt_nullary 1490 _ _ rfl) <|
  Chain.cons (stepAt_unary 1491 _ _ _ rfl (by decide)) <|
  Chain.cons (stepAt_binary 1492 _ _ _ _ rfl (by decide) (by decide)) <|
  Chain.cons (stepAt_nullary 1493 _ _ rfl) <|
  Chain.cons (stepAt_unary 1494 _ _ _ rfl (by decide)) <|
  Chain.cons (stepAt_binary 1495 _ _ _ _ rfl (by decide) (by decide)) <|
  Chain.cons (stepAt_ternary 1496 _ _ _ _ _ rfl (by decide) (by decide) (by decide)) <|
  Chain.cons (stepAt_unary 1497 _ _ _ rfl (by decide)) <|
  Chain.cons (stepAt_unary 1498 _ _ _ rfl (by decide)) <|
  Chain.cons (stepAt_binary 1499 _ _ _ _ rfl (by decide) (by decide)) <|
  Chain.cons (stepAt_binary 1500 _ _ _ _ rfl (by decide) (by decide)) <|
  Chain.cons (stepAt_nullary 1501 _ _ rfl) <|
  Chain.cons (stepAt_unary 1502 _ _ _ rfl (by decide)) <|
  Chain.cons (stepAt_binary 1503 _ _ _ _ rfl (by decide) (by decide)) <|
  Chain.cons (stepAt_nullary 1504 _ _ rfl) <|
  Chain.cons (stepAt_unary 1505 _ _ _ rfl (by decide)) <|
  Chain.cons (stepAt_binary 1506 _ _ _ _ rfl (by decide) (by decide)) <|
  Chain.cons (stepAt_ternary 1507 _ _ _ _ _ rfl (by decide) (by decide) (by decide)) <|
  Chain.cons (stepAt_nullary 1508 _ _ rfl) <|
  Chain.cons (stepAt_unary 1509 _ _ _ rfl (by decide)) <|
  Chain.cons (stepAt_binary 1510 _ _ _ _ rfl (by decide) (by decide)) <|
  Chain.cons (stepAt_nullary 1511 _ _ rfl) <|
  Chain.cons (stepAt_unary 1512 _ _ _ rfl (by decide)) <|
  Chain.cons (stepAt_binary 1513 _ _ _ _ rfl (by decide) (by decide)) <|
  Chain.cons (stepAt_ternary 1514 _ _ _ _ _ rfl (by decide) (by decide) (by decide)) <|
  Chain.cons (stepAt_unary 1515 _ _ _ rfl (by decide)) <|
  Chain.cons (stepAt_unary 1516 _ _ _ rfl (by decide)) <|
  Chain.cons (stepAt_binary 1517 _ _ _ _ rfl (by decide) (by decide)) <|
  Chain.cons (stepAt_binary 1518 _ _ _ _ rfl (by decide) (by decide)) <|
  Chain.cons (stepAt_nullary 1519 _ _ rfl) <|
  Chain.cons (stepAt_unary 1520 _ _ _ rfl (by decide)) <|
  Chain.cons (stepAt_binary 1521 _ _ _ _ rfl (by decide) (by decide)) <|
  Chain.cons (stepAt_unary 1522 _ _ _ rfl (by decide)) <|
  Chain.cons (stepAt_unary 1523 _ _ _ rfl (by decide)) <|
  Chain.cons (stepAt_binary 1524 _ _ _ _ rfl (by decide) (by decide)) <|
  Chain.cons (stepAt_nullary 1525 _ _ rfl) <|
  Chain.cons (stepAt_unary 1526 _ _ _ rfl (by decide)) <|
  Chain.cons (stepAt_binary 1527 _ _ _ _ rfl (by decide) (by decide)) <|
  Chain.cons (stepAt_unary 1528 _ _ _ rfl (by decide)) <|
  Chain.cons (stepAt_unary 1529 _ _ _ rfl (by decide)) <|
  Chain.cons (stepAt_binary 1530 _ _ _ _ rfl (by decide) (by decide)) <|
  Chain.cons (stepAt_unary 1531 _ _ _ rfl (by decide)) <|
  Chain.cons (stepAt_unary 1532 _ _ _ rfl (by decide)) <|
  Chain.cons (stepAt_binary 1533 _ _ _ _ rfl (by decide) (by decide)) <|
  Chain.cons (stepAt_nullary 1534 _ _ rfl) <|
  Chain.cons (stepAt_unary 1535 _ _ _ rfl (by decide)) <|
  Chain.cons (stepAt_binary 1536 _ _ _ _ rfl (by decide) (by decide)) <|
  Chain.cons (stepAt_unary 1537 _ _ _ rfl (by decide)) <|
  Chain.cons (stepAt_unary 1538 _ _ _ rfl (by decide)) <|
  Chain.cons (stepAt_binary 1539 _ _ _ _ rfl (by decide) (by decide)) <|
  Chain.cons (stepAt_binary 1540 _ _ _ _ rfl (by decide) (by decide)) <|
  Chain.cons (stepAt_nullary 1541 _ _ rfl) <|
  Chain.cons (stepAt_unary 1542 _ _ _ rfl (by decide)) <|
  Chain.cons (stepAt_binary 1543 _ _ _ _ rfl (by decide) (by decide)) <|
  Chain.cons (stepAt_unary 1544 _ _ _ rfl (by decide)) <|
  Chain.cons (stepAt_unary 1545 _ _ _ rfl (by decide)) <|
  Chain.cons (stepAt_binary 1546 _ _ _ _ rfl (by decide) (by decide)) <|
  Chain.cons (stepAt_unary 1547 _ _ _ rfl (by decide)) <|
  Chain.cons (stepAt_unary 1548 _ _ _ rfl (by decide)) <|
  Chain.cons (stepAt_binary 1549 _ _ _ _ rfl (by decide) (by decide)) <|
  Chain.cons (stepAt_binary 1550 _ _ _ _ rfl (by decide) (by decide)) <|
  Chain.cons (stepAt_unary 1551 _ _ _ rfl (by decide)) <|
  Chain.cons (stepAt_unary 1552 _ _ _ rfl (by decide)) <|
  Chain.cons (stepAt_binary 1553 _ _ _ _ rfl (by decide) (by decide)) <|
  Chain.cons (stepAt_unary 1554 _ _ _ rfl (by decide)) <|
  Chain.cons (stepAt_unary 1555 _ _ _ rfl (by decide)) <|
  Chain.cons (stepAt_binary 1556 _ _ _ _ rfl (by decide) (by decide)) <|
  Chain.cons (stepAt_binary 1557 _ _ _ _ rfl (by decide) (by decide)) <|
  Chain.cons (stepAt_unary 1558 _ _ _ rfl (by decide)) <|
  Chain.cons (stepAt_nullary 1559 _ _ rfl) <|
  Chain.cons (stepAt_unary 1560 _ _ _ rfl (by decide)) <|
  Chain.cons (stepAt_binary 1561 _ _ _ _ rfl (by decide) (by decide)) <|
  Chain.cons (stepAt_nullary 1562 _ _ rfl) <|
  Chain.cons (stepAt_unary 1563 _ _ _ rfl (by decide)) <|
  Chain.cons (stepAt_binary 1564 _ _ _ _ rfl (by decide) (by decide)) <|
  Chain.cons (stepAt_ternary 1565 _ _ _ _ _ rfl (by decide) (by decide) (by decide)) <|
  Chain.cons (stepAt_unary 1566 _ _ _ rfl (by decide)) <|
  Chain.cons (stepAt_binary 1567 _ _ _ _ rfl (by decide) (by decide)) <|
  Chain.cons (stepAt_unary 1568 _ _ _ rfl (by decide)) <|
  Chain.cons (stepAt_reshape 1569 _ _ _ _ rfl (by decide)) <|
  Chain.cons (stepAt_nullary 1570 _ _ rfl) <|
  Chain.cons (stepAt_unary 1571 _ _ _ rfl (by decide)) <|
  Chain.cons (stepAt_binary 1572 _ _ _ _ rfl (by decide) (by decide)) <|
  Chain.cons (stepAt_nullary 1573 _ _ rfl) <|
  Chain.cons (stepAt_unary 1574 _ _ _ rfl (by decide)) <|
  Chain.cons (stepAt_binary 1575 _ _ _ _ rfl (by decide) (by decide)) <|
  Chain.cons (stepAt_nullary 1576 _ _ rfl) <|
  Chain.cons (stepAt_unary 1577 _ _ _ rfl (by decide)) <|
  Chain.cons (stepAt_binary 1578 _ _ _ _ rfl (by decide) (by decide)) <|
  Chain.cons (stepAt_unary 1579 _ _ _ rfl (by decide)) <|
  Chain.cons (stepAt_reshape 1580 _ _ _ _ rfl (by decide)) <|
  Chain.cons (stepAt_nullary 1581 _ _ rfl) <|
  Chain.cons (stepAt_unary 1582 _ _ _ rfl (by decide)) <|
  Chain.cons (stepAt_binary 1583 _ _ _ _ rfl (by decide) (by decide)) <|
  Chain.cons (stepAt_nullary 1584 _ _ rfl) <|
  Chain.cons (stepAt_unary 1585 _ _ _ rfl (by decide)) <|
  Chain.cons (stepAt_binary 1586 _ _ _ _ rfl (by decide) (by decide)) <|
  Chain.cons (stepAt_nullary 1587 _ _ rfl) <|
  Chain.cons (stepAt_unary 1588 _ _ _ rfl (by decide)) <|
  Chain.cons (stepAt_binary 1589 _ _ _ _ rfl (by decide) (by decide)) <|
  Chain.cons (stepAt_unary 1590 _ _ _ rfl (by decide)) <|
  Chain.cons (stepAt_unary 1591 _ _ _ rfl (by decide)) <|
  Chain.cons (stepAt_binary 1592 _ _ _ _ rfl (by decide) (by decide)) <|
  Chain.cons (stepAt_binary 1593 _ _ _ _ rfl (by decide) (by decide)) <|
  Chain.cons (stepAt_unary 1594 _ _ _ rfl (by decide)) <|
  Chain.cons (stepAt_nullary 1595 _ _ rfl) <|
  Chain.cons (stepAt_nullary 1596 _ _ rfl) <|
  Chain.nil
theorem hostOps0_64_length : (hostOps0_64 : List (HloOp τ sig (Elt F))).length = 150 := rfl

set_option maxHeartbeats 4000000 in
/-- Operations 1569 … 1574 of the program, writing buffers 1597 … 1602. -/
theorem hostOps0_65_chain : Chain 1597 (hostOps0_65 : List (HloOp τ sig (Elt F))) :=
  Chain.cons (stepAt_unary 1597 _ _ _ rfl (by decide)) <|
  Chain.cons (stepAt_unary 1598 _ _ _ rfl (by decide)) <|
  Chain.cons (stepAt_binary 1599 _ _ _ _ rfl (by decide) (by decide)) <|
  Chain.cons (stepAt_unary 1600 _ _ _ rfl (by decide)) <|
  Chain.cons (stepAt_unary 1601 _ _ _ rfl (by decide)) <|
  Chain.cons (stepAt_binary 1602 _ _ _ _ rfl (by decide) (by decide)) <|
  Chain.nil
theorem hostOps0_65_length : (hostOps0_65 : List (HloOp τ sig (Elt F))).length = 6 := rfl

set_option maxHeartbeats 4000000 in
/-- Operations 1575 … 1579 of the program, writing buffers 1603 … 1607. -/
theorem hostOps0_66_chain : Chain 1603 (hostOps0_66 : List (HloOp τ sig (Elt F))) :=
  Chain.cons (stepAt_nullary 1603 _ _ rfl) <|
  Chain.cons (stepAt_unary 1604 _ _ _ rfl (by decide)) <|
  Chain.cons (stepAt_binary 1605 _ _ _ _ rfl (by decide) (by decide)) <|
  Chain.cons (stepAt_nullary 1606 _ _ rfl) <|
  Chain.cons (stepAt_nullary 1607 _ _ rfl) <|
  Chain.nil
theorem hostOps0_66_length : (hostOps0_66 : List (HloOp τ sig (Elt F))).length = 5 := rfl

set_option maxHeartbeats 4000000 in
/-- Operations 1580 … 1585 of the program, writing buffers 1608 … 1613. -/
theorem hostOps0_67_chain : Chain 1608 (hostOps0_67 : List (HloOp τ sig (Elt F))) :=
  Chain.cons (stepAt_unary 1608 _ _ _ rfl (by decide)) <|
  Chain.cons (stepAt_unary 1609 _ _ _ rfl (by decide)) <|
  Chain.cons (stepAt_binary 1610 _ _ _ _ rfl (by decide) (by decide)) <|
  Chain.cons (stepAt_unary 1611 _ _ _ rfl (by decide)) <|
  Chain.cons (stepAt_unary 1612 _ _ _ rfl (by decide)) <|
  Chain.cons (stepAt_binary 1613 _ _ _ _ rfl (by decide) (by decide)) <|
  Chain.nil
theorem hostOps0_67_length : (hostOps0_67 : List (HloOp τ sig (Elt F))).length = 6 := rfl

set_option maxHeartbeats 4000000 in
/-- Operations 1586 … 1588 of the program, writing buffers 1614 … 1616. -/
theorem hostOps0_68_chain : Chain 1614 (hostOps0_68 : List (HloOp τ sig (Elt F))) :=
  Chain.cons (stepAt_unary 1614 _ _ _ rfl (by decide)) <|
  Chain.cons (stepAt_nullary 1615 _ _ rfl) <|
  Chain.cons (stepAt_nullary 1616 _ _ rfl) <|
  Chain.nil
theorem hostOps0_68_length : (hostOps0_68 : List (HloOp τ sig (Elt F))).length = 3 := rfl

set_option maxHeartbeats 4000000 in
/-- Operations 1589 … 1594 of the program, writing buffers 1617 … 1622. -/
theorem hostOps0_69_chain : Chain 1617 (hostOps0_69 : List (HloOp τ sig (Elt F))) :=
  Chain.cons (stepAt_unary 1617 _ _ _ rfl (by decide)) <|
  Chain.cons (stepAt_unary 1618 _ _ _ rfl (by decide)) <|
  Chain.cons (stepAt_binary 1619 _ _ _ _ rfl (by decide) (by decide)) <|
  Chain.cons (stepAt_unary 1620 _ _ _ rfl (by decide)) <|
  Chain.cons (stepAt_unary 1621 _ _ _ rfl (by decide)) <|
  Chain.cons (stepAt_binary 1622 _ _ _ _ rfl (by decide) (by decide)) <|
  Chain.nil
theorem hostOps0_69_length : (hostOps0_69 : List (HloOp τ sig (Elt F))).length = 6 := rfl

set_option maxHeartbeats 4000000 in
/-- Operations 1595 … 1599 of the program, writing buffers 1623 … 1627. -/
theorem hostOps0_70_chain : Chain 1623 (hostOps0_70 : List (HloOp τ sig (Elt F))) :=
  Chain.cons (stepAt_nullary 1623 _ _ rfl) <|
  Chain.cons (stepAt_unary 1624 _ _ _ rfl (by decide)) <|
  Chain.cons (stepAt_binary 1625 _ _ _ _ rfl (by decide) (by decide)) <|
  Chain.cons (stepAt_nullary 1626 _ _ rfl) <|
  Chain.cons (stepAt_nullary 1627 _ _ rfl) <|
  Chain.nil
theorem hostOps0_70_length : (hostOps0_70 : List (HloOp τ sig (Elt F))).length = 5 := rfl

set_option maxHeartbeats 4000000 in
/-- Operations 1600 … 1605 of the program, writing buffers 1628 … 1633. -/
theorem hostOps0_71_chain : Chain 1628 (hostOps0_71 : List (HloOp τ sig (Elt F))) :=
  Chain.cons (stepAt_unary 1628 _ _ _ rfl (by decide)) <|
  Chain.cons (stepAt_unary 1629 _ _ _ rfl (by decide)) <|
  Chain.cons (stepAt_binary 1630 _ _ _ _ rfl (by decide) (by decide)) <|
  Chain.cons (stepAt_unary 1631 _ _ _ rfl (by decide)) <|
  Chain.cons (stepAt_unary 1632 _ _ _ rfl (by decide)) <|
  Chain.cons (stepAt_binary 1633 _ _ _ _ rfl (by decide) (by decide)) <|
  Chain.nil
theorem hostOps0_71_length : (hostOps0_71 : List (HloOp τ sig (Elt F))).length = 6 := rfl

set_option maxHeartbeats 4000000 in
/-- Operations 1606 … 1755 of the program, writing buffers 1634 … 1783. -/
theorem hostOps0_72_chain : Chain 1634 (hostOps0_72 : List (HloOp τ sig (Elt F))) :=
  Chain.cons (stepAt_nullary 1634 _ _ rfl) <|
  Chain.cons (stepAt_unary 1635 _ _ _ rfl (by decide)) <|
  Chain.cons (stepAt_binary 1636 _ _ _ _ rfl (by decide) (by decide)) <|
  Chain.cons (stepAt_nullary 1637 _ _ rfl) <|
  Chain.cons (stepAt_unary 1638 _ _ _ rfl (by decide)) <|
  Chain.cons (stepAt_binary 1639 _ _ _ _ rfl (by decide) (by decide)) <|
  Chain.cons (stepAt_ternary 1640 _ _ _ _ _ rfl (by decide) (by decide) (by decide)) <|
  Chain.cons (stepAt_nullary 1641 _ _ rfl) <|
  Chain.cons (stepAt_unary 1642 _ _ _ rfl (by decide)) <|
  Chain.cons (stepAt_binary 1643 _ _ _ _ rfl (by decide) (by decide)) <|
  Chain.cons (stepAt_nullary 1644 _ _ rfl) <|
  Chain.cons (stepAt_unary 1645 _ _ _ rfl (by decide)) <|
  Chain.cons (stepAt_binary 1646 _ _ _ _ rfl (by decide) (by decide)) <|
  Chain.cons (stepAt_ternary 1647 _ _ _ _ _ rfl (by decide) (by decide) (by decide)) <|
  Chain.cons (stepAt_unary 1648 _ _ _ rfl (by decide)) <|
  Chain.cons (stepAt_unary 1649 _ _ _ rfl (by decide)) <|
  Chain.cons (stepAt_binary 1650 _ _ _ _ rfl (by decide) (by decide)) <|
  Chain.cons (stepAt_binary 1651 _ _ _ _ rfl (by decide) (by decide)) <|
  Chain.cons (stepAt_nullary 1652 _ _ rfl) <|
  Chain.cons (stepAt_unary 1653 _ _ _ rfl (by decide)) <|
  Chain.cons (stepAt_binary 1654 _ _ _ _ rfl (by decide) (by decide)) <|
  Chain.cons (stepAt_nullary 1655 _ _ rfl) <|
  Chain.cons (stepAt_unary 1656 _ _ _ rfl (by decide)) <|
  Chain.cons (stepAt_binary 1657 _ _ _ _ rfl (by decide) (by decide)) <|
  Chain.cons (stepAt_ternary 1658 _ _ _ _ _ rfl (by decide) (by decide) (by decide)) <|
  Chain.cons (stepAt_nullary 1659 _ _ rfl) <|
  Chain.cons (stepAt_unary 1660 _ _ _ rfl (by decide)) <|
  Chain.cons (stepAt_binary 1661 _ _ _ _ rfl (by decide) (by decide)) <|
  Chain.cons (stepAt_nullary 1662 _ _ rfl) <|
  Chain.cons (stepAt_unary 1663 _ _ _ rfl (by decide)) <|
  Chain.cons (stepAt_binary 1664 _ _ _ _ rfl (by decide) (by decide)) <|
  Chain.cons (stepAt_ternary 1665 _ _ _ _ _ rfl (by decide) (by decide) (by decide)) <|
  Chain.cons (stepAt_unary 1666 _ _ _ rfl (by decide)) <|
  Chain.cons (stepAt_unary 1667 _ _ _ rfl (by decide)) <|
  Chain.cons (stepAt_binary 1668 _ _ _ _ rfl (by decide) (by decide)) <|
  Chain.cons (stepAt_binary 1669 _ _ _ _ rfl (by decide) (by decide)) <|
  Chain.cons (stepAt_nullary 1670 _ _ rfl) <|
  Chain.cons (stepAt_unary 1671 _ _ _ rfl (by decide)) <|
  Chain.cons (stepAt_binary 1672 _ _ _ _ rfl (by decide) (by decide)) <|
  Chain.cons (stepAt_nullary 1673 _ _ rfl) <|
  Chain.cons (stepAt_unary 1674 _ _ _ rfl (by decide)) <|
  Chain.cons (stepAt_binary 1675 _ _ _ _ rfl (by decide) (by decide)) <|
  Chain.cons (stepAt_ternary 1676 _ _ _ _ _ rfl (by decide) (by decide) (by decide)) <|
  Chain.cons (stepAt_nullary 1677 _ _ rfl) <|
  Chain.cons (stepAt_unary 1678 _ _ _ rfl (by decide)) <|
  Chain.cons (stepAt_binary 1679 _ _ _ _ rfl (by decide) (by decide)) <|
  Chain.cons (stepAt_nullary 1680 _ _ rfl) <|
  Chain.cons (stepAt_unary 1681 _ _ _ rfl (by decide)) <|
  Chain.cons (stepAt_binary 1682 _ _ _ _ rfl (by decide) (by decide)) <|
  Chain.cons (stepAt_ternary 1683 _ _ _ _ _ rfl (by decide) (by decide) (by decide)) <|
  Chain.cons (stepAt_unary 1684 _ _ _ rfl (by decide)) <|
  Chain.cons (stepAt_unary 1685 _ _ _ rfl (by decide)) <|
  Chain.cons (stepAt_binary 1686 _ _ _ _ rfl (by decide) (by decide)) <|
  Chain.cons (stepAt_binary 1687 _ _ _ _ rfl (by decide) (by decide)) <|
  Chain.cons (stepAt_nullary 1688 _ _ rfl) <|
  Chain.cons (stepAt_unary 1689 _ _ _ rfl (by decide)) <|
  Chain.cons (stepAt_binary 1690 _ _ _ _ rfl (by decide) (by decide)) <|
  Chain.cons (stepAt_nullary 1691 _ _ rfl) <|
  Chain.cons (stepAt_unary 1692 _ _ _ rfl (by decide)) <|
  Chain.cons (stepAt_binary 1693 _ _ _ _ rfl (by decide) (by decide)) <|
  Chain.cons (stepAt_ternary 1694 _ _ _ _ _ rfl (by decide) (by decide) (by decide)) <|
  Chain.cons (stepAt_nullary 1695 _ _ rfl) <|
  Chain.cons (stepAt_unary 1696 _ _ _ rfl (by decide)) <|
  Chain.cons (stepAt_binary 1697 _ _ _ _ rfl (by decide) (by decide)) <|
  Chain.cons (stepAt_nullary 1698 _ _ rfl) <|
  Chain.cons (stepAt_unary 1699 _ _ _ rfl (by decide)) <|
  Chain.cons (stepAt_binary 1700 _ _ _ _ rfl (by decide) (by decide)) <|
  Chain.cons (stepAt_ternary 1701 _ _ _ _ _ rfl (by decide) (by decide) (by decide)) <|
  Chain.cons (stepAt_unary 1702 _ _ _ rfl (by decide)) <|
  Chain.cons (stepAt_unary 1703 _ _ _ rfl (by decide)) <|
  Chain.cons (stepAt_binary 1704 _ _ _ _ rfl (by decide) (by decide)) <|
  Chain.cons (stepAt_binary 1705 _ _ _ _ rfl (by decide) (by decide)) <|
  Chain.cons (stepAt_nullary 1706 _ _ rfl) <|
  Chain.cons (stepAt_unary 1707 _ _ _ rfl (by decide)) <|
  Chain.cons (stepAt_binary 1708 _ _ _ _ rfl (by decide) (by decide)) <|
  Chain.cons (stepAt_unary 1709 _ _ _ rfl (by decide)) <|
  Chain.cons (stepAt_unary 1710 _ _ _ rfl (by decide)) <|
  Chain.cons (stepAt_binary 1711 _ _ _ _ rfl (by decide) (by decide)) <|
  Chain.cons (stepAt_nullary 1712 _ _ rfl) <|
  Chain.cons (stepAt_unary 1713 _ _ _ rfl (by decide)) <|
  Chain.cons (stepAt_binary 1714 _ _ _ _ rfl (by decide) (by decide)) <|
  Chain.cons (stepAt_unary 1715 _ _ _ rfl (by decide)) <|
  Chain.cons (stepAt_unary 1716 _ _ _ rfl (by decide)) <|
  Chain.cons (stepAt_binary 1717 _ _ _ _ rfl (by decide) (by decide)) <|
  Chain.cons (stepAt_unary 1718 _ _ _ rfl (by decide)) <|
  Chain.cons (stepAt_unary 1719 _ _ _ rfl (by decide)) <|
  Chain.cons (stepAt_binary 1720 _ _ _ _ rfl (by decide) (by decide)) <|
  Chain.cons (stepAt_nullary 1721 _ _ rfl) <|
  Chain.cons (stepAt_unary 1722 _ _ _ rfl (by decide)) <|
  Chain.cons (stepAt_binary 1723 _ _ _ _ rfl (by decide) (by decide)) <|
  Chain.cons (stepAt_unary 1724 _ _ _ rfl (by decide)) <|
  Chain.cons (stepAt_unary 1725 _ _ _ rfl (by decide)) <|
  Chain.cons (stepAt_binary 1726 _ _ _ _ rfl (by decide) (by decide)) <|
  Chain.cons (stepAt_binary 1727 _ _ _ _ rfl (by decide) (by decide)) <|
  Chain.cons (stepAt_nullary 1728 _ _ rfl) <|
  Chain.cons (stepAt_unary 1729 _ _ _ rfl (by decide)) <|
  Chain.cons (stepAt_binary 1730 _ _ _ _ rfl (by decide) (by decide)) <|
  Chain.cons (stepAt_unary 1731 _ _ _ rfl (by decide)) <|
  Chain.cons (stepAt_unary 1732 _ _ _ rfl (by decide)) <|
  Chain.cons (stepAt_binary 1733 _ _ _ _ rfl (by decide) (by decide)) <|
  Chain.cons (stepAt_unary 1734 _ _ _ rfl (by decide)) <|
  Chain.cons (stepAt_unary 1735 _ _ _ rfl (by decide)) <|
  Chain.cons (stepAt_binary 1736 _ _ _ _ rfl (by decide) (by decide)) <|
  Chain.cons (stepAt_binary 1737 _ _ _ _ rfl (by decide) (by decide)) <|
  Chain.cons (stepAt_unary 1738 _ _ _ rfl (by decide)) <|
  Chain.cons (stepAt_unary 1739 _ _ _ rfl (by decide)) <|
  Chain.cons (stepAt_binary 1740 _ _ _ _ rfl (by decide) (by decide)) <|
  Chain.cons (stepAt_unary 1741 _ _ _ rfl (by decide)) <|
  Chain.cons (stepAt_unary 1742 _ _ _ rfl (by decide)) <|
  Chain.cons (stepAt_binary 1743 _ _ _ _ rfl (by decide) (by decide)) <|
  Chain.cons (stepAt_binary 1744 _ _ _ _ rfl (by decide) (by decide)) <|
  Chain.cons (stepAt_unary 1745 _ _ _ rfl (by decide)) <|
  Chain.cons (stepAt_nullary 1746 _ _ rfl) <|
  Chain.cons (stepAt_unary 1747 _ _ _ rfl (by decide)) <|
  Chain.cons (stepAt_binary 1748 _ _ _ _ rfl (by decide) (by decide)) <|
  Chain.cons (stepAt_nullary 1749 _ _ rfl) <|
  Chain.cons (stepAt_unary 1750 _ _ _ rfl (by decide)) <|
  Chain.cons (stepAt_binary 1751 _ _ _ _ rfl (by decide) (by decide)) <|
  Chain.cons (stepAt_ternary 1752 _ _ _ _ _ rfl (by decide) (by decide) (by decide)) <|
  Chain.cons (stepAt_unary 1753 _ _ _ rfl (by decide)) <|
  Chain.cons (stepAt_binary 1754 _ _ _ _ rfl (by decide) (by decide)) <|
  Chain.cons (stepAt_unary 1755 _ _ _ rfl (by decide)) <|
  Chain.cons (stepAt_reshape 1756 _ _ _ _ rfl (by decide)) <|
  Chain.cons (stepAt_nullary 1757 _ _ rfl) <|
  Chain.cons (stepAt_unary 1758 _ _ _ rfl (by decide)) <|
  Chain.cons (stepAt_binary 1759 _ _ _ _ rfl (by decide) (by decide)) <|
  Chain.cons (stepAt_nullary 1760 _ _ rfl) <|
  Chain.cons (stepAt_unary 1761 _ _ _ rfl (by decide)) <|
  Chain.cons (stepAt_binary 1762 _ _ _ _ rfl (by decide) (by decide)) <|
  Chain.cons (stepAt_nullary 1763 _ _ rfl) <|
  Chain.cons (stepAt_unary 1764 _ _ _ rfl (by decide)) <|
  Chain.cons (stepAt_binary 1765 _ _ _ _ rfl (by decide) (by decide)) <|
  Chain.cons (stepAt_unary 1766 _ _ _ rfl (by decide)) <|
  Chain.cons (stepAt_reshape 1767 _ _ _ _ rfl (by decide)) <|
  Chain.cons (stepAt_nullary 1768 _ _ rfl) <|
  Chain.cons (stepAt_unary 1769 _ _ _ rfl (by decide)) <|
  Chain.cons (stepAt_binary 1770 _ _ _ _ rfl (by decide) (by decide)) <|
  Chain.cons (stepAt_nullary 1771 _ _ rfl) <|
  Chain.cons (stepAt_unary 1772 _ _ _ rfl (by decide)) <|
  Chain.cons (stepAt_binary 1773 _ _ _ _ rfl (by decide) (by decide)) <|
  Chain.cons (stepAt_nullary 1774 _ _ rfl) <|
  Chain.cons (stepAt_unary 1775 _ _ _ rfl (by decide)) <|
  Chain.cons (stepAt_binary 1776 _ _ _ _ rfl (by decide) (by decide)) <|
  Chain.cons (stepAt_unary 1777 _ _ _ rfl (by decide)) <|
  Chain.cons (stepAt_unary 1778 _ _ _ rfl (by decide)) <|
  Chain.cons (stepAt_binary 1779 _ _ _ _ rfl (by decide) (by decide)) <|
  Chain.cons (stepAt_binary 1780 _ _ _ _ rfl (by decide) (by decide)) <|
  Chain.cons (stepAt_unary 1781 _ _ _ rfl (by decide)) <|
  Chain.cons (stepAt_nullary 1782 _ _ rfl) <|
  Chain.cons (stepAt_nullary 1783 _ _ rfl) <|
  Chain.nil
theorem hostOps0_72_length : (hostOps0_72 : List (HloOp τ sig (Elt F))).length = 150 := rfl

set_option maxHeartbeats 4000000 in
/-- Operations 1756 … 1761 of the program, writing buffers 1784 … 1789. -/
theorem hostOps0_73_chain : Chain 1784 (hostOps0_73 : List (HloOp τ sig (Elt F))) :=
  Chain.cons (stepAt_unary 1784 _ _ _ rfl (by decide)) <|
  Chain.cons (stepAt_unary 1785 _ _ _ rfl (by decide)) <|
  Chain.cons (stepAt_binary 1786 _ _ _ _ rfl (by decide) (by decide)) <|
  Chain.cons (stepAt_unary 1787 _ _ _ rfl (by decide)) <|
  Chain.cons (stepAt_unary 1788 _ _ _ rfl (by decide)) <|
  Chain.cons (stepAt_binary 1789 _ _ _ _ rfl (by decide) (by decide)) <|
  Chain.nil
theorem hostOps0_73_length : (hostOps0_73 : List (HloOp τ sig (Elt F))).length = 6 := rfl

set_option maxHeartbeats 4000000 in
/-- Operations 1762 … 1766 of the program, writing buffers 1790 … 1794. -/
theorem hostOps0_74_chain : Chain 1790 (hostOps0_74 : List (HloOp τ sig (Elt F))) :=
  Chain.cons (stepAt_nullary 1790 _ _ rfl) <|
  Chain.cons (stepAt_unary 1791 _ _ _ rfl (by decide)) <|
  Chain.cons (stepAt_binary 1792 _ _ _ _ rfl (by decide) (by decide)) <|
  Chain.cons (stepAt_nullary 1793 _ _ rfl) <|
  Chain.cons (stepAt_nullary 1794 _ _ rfl) <|
  Chain.nil
theorem hostOps0_74_length : (hostOps0_74 : List (HloOp τ sig (Elt F))).length = 5 := rfl

set_option maxHeartbeats 4000000 in
/-- Operations 1767 … 1772 of the program, writing buffers 1795 … 1800. -/
theorem hostOps0_75_chain : Chain 1795 (hostOps0_75 : List (HloOp τ sig (Elt F))) :=
  Chain.cons (stepAt_unary 1795 _ _ _ rfl (by decide)) <|
  Chain.cons (stepAt_unary 1796 _ _ _ rfl (by decide)) <|
  Chain.cons (stepAt_binary 1797 _ _ _ _ rfl (by decide) (by decide)) <|
  Chain.cons (stepAt_unary 1798 _ _ _ rfl (by decide)) <|
  Chain.cons (stepAt_unary 1799 _ _ _ rfl (by decide)) <|
  Chain.cons (stepAt_binary 1800 _ _ _ _ rfl (by decide) (by decide)) <|
  Chain.nil
theorem hostOps0_75_length : (hostOps0_75 : List (HloOp τ sig (Elt F))).length = 6 := rfl

set_option maxHeartbeats 4000000 in
/-- Operations 1773 … 1775 of the program, writing buffers 1801 … 1803. -/
theorem hostOps0_76_chain : Chain 1801 (hostOps0_76 : List (HloOp τ sig (Elt F))) :=
  Chain.cons (stepAt_unary 1801 _ _ _ rfl (by decide)) <|
  Chain.cons (stepAt_nullary 1802 _ _ rfl) <|
  Chain.cons (stepAt_nullary 1803 _ _ rfl) <|
  Chain.nil
theorem hostOps0_76_length : (hostOps0_76 : List (HloOp τ sig (Elt F))).length = 3 := rfl

set_option maxHeartbeats 4000000 in
/-- Operations 1776 … 1781 of the program, writing buffers 1804 … 1809. -/
theorem hostOps0_77_chain : Chain 1804 (hostOps0_77 : List (HloOp τ sig (Elt F))) :=
  Chain.cons (stepAt_unary 1804 _ _ _ rfl (by decide)) <|
  Chain.cons (stepAt_unary 1805 _ _ _ rfl (by decide)) <|
  Chain.cons (stepAt_binary 1806 _ _ _ _ rfl (by decide) (by decide)) <|
  Chain.cons (stepAt_unary 1807 _ _ _ rfl (by decide)) <|
  Chain.cons (stepAt_unary 1808 _ _ _ rfl (by decide)) <|
  Chain.cons (stepAt_binary 1809 _ _ _ _ rfl (by decide) (by decide)) <|
  Chain.nil
theorem hostOps0_77_length : (hostOps0_77 : List (HloOp τ sig (Elt F))).length = 6 := rfl

set_option maxHeartbeats 4000000 in
/-- Operations 1782 … 1786 of the program, writing buffers 1810 … 1814. -/
theorem hostOps0_78_chain : Chain 1810 (hostOps0_78 : List (HloOp τ sig (Elt F))) :=
  Chain.cons (stepAt_nullary 1810 _ _ rfl) <|
  Chain.cons (stepAt_unary 1811 _ _ _ rfl (by decide)) <|
  Chain.cons (stepAt_binary 1812 _ _ _ _ rfl (by decide) (by decide)) <|
  Chain.cons (stepAt_nullary 1813 _ _ rfl) <|
  Chain.cons (stepAt_nullary 1814 _ _ rfl) <|
  Chain.nil
theorem hostOps0_78_length : (hostOps0_78 : List (HloOp τ sig (Elt F))).length = 5 := rfl

set_option maxHeartbeats 4000000 in
/-- Operations 1787 … 1792 of the program, writing buffers 1815 … 1820. -/
theorem hostOps0_79_chain : Chain 1815 (hostOps0_79 : List (HloOp τ sig (Elt F))) :=
  Chain.cons (stepAt_unary 1815 _ _ _ rfl (by decide)) <|
  Chain.cons (stepAt_unary 1816 _ _ _ rfl (by decide)) <|
  Chain.cons (stepAt_binary 1817 _ _ _ _ rfl (by decide) (by decide)) <|
  Chain.cons (stepAt_unary 1818 _ _ _ rfl (by decide)) <|
  Chain.cons (stepAt_unary 1819 _ _ _ rfl (by decide)) <|
  Chain.cons (stepAt_binary 1820 _ _ _ _ rfl (by decide) (by decide)) <|
  Chain.nil
theorem hostOps0_79_length : (hostOps0_79 : List (HloOp τ sig (Elt F))).length = 6 := rfl

end Cert.Kernel.Stretch

end
-- ==== Proof.KBStretch2.lean ====
/- The stretches of @main's host operations before the kernel's region are single-assignment lines: the operations of a
   stretch write the consecutive buffers numbered from the stated bound, each reading only buffers of smaller numbers. -/
import proofs.«133805_j10187662426200_2_alg».proof.Proof.Gen.Kernel.Launch
import proofs.«133805_j10187662426200_2_alg».proof.Proof.HostChain

set_option maxRecDepth 65536

noncomputable section

namespace Cert.Kernel.Stretch

open Cert.Kernel Cert.Kernel.Gen Idealize.ShloMosaic Idealize.ShloMosaic.TcCoe Idealize.SL.Sem Idealize.ShloMosaic.StableHlo Cert.HostFold

variable {F : FTy → Type} [FloatOps F]

set_option maxHeartbeats 4000000 in
/-- Operations 1793 … 1942 of the program, writing buffers 1821 … 1970. -/
theorem hostOps0_80_chain : Chain 1821 (hostOps0_80 : List (HloOp τ sig (Elt F))) :=
  Chain.cons (stepAt_nullary 1821 _ _ rfl) <|
  Chain.cons (stepAt_unary 1822 _ _ _ rfl (by decide)) <|
  Chain.cons (stepAt_binary 1823 _ _ _ _ rfl (by decide) (by decide)) <|
  Chain.cons (stepAt_nullary 1824 _ _ rfl) <|
  Chain.cons (stepAt_unary 1825 _ _ _ rfl (by decide)) <|
  Chain.cons (stepAt_binary 1826 _ _ _ _ rfl (by decide) (by decide)) <|
  Chain.cons (stepAt_ternary 1827 _ _ _ _ _ rfl (by decide) (by decide) (by decide)) <|
  Chain.cons (stepAt_nullary 1828 _ _ rfl) <|
  Chain.cons (stepAt_unary 1829 _ _ _ rfl (by decide)) <|
  Chain.cons (stepAt_binary 1830 _ _ _ _ rfl (by decide) (by decide)) <|
  Chain.cons (stepAt_nullary 1831 _ _ rfl) <|
  Chain.cons (stepAt_unary 1832 _ _ _ rfl (by decide)) <|
  Chain.cons (stepAt_binary 1833 _ _ _ _ rfl (by decide) (by decide)) <|
  Chain.cons (stepAt_ternary 1834 _ _ _ _ _ rfl (by decide) (by decide) (by decide)) <|
  Chain.cons (stepAt_unary 1835 _ _ _ rfl (by decide)) <|
  Chain.cons (stepAt_unary 1836 _ _ _ rfl (by decide)) <|
  Chain.cons (stepAt_binary 1837 _ _ _ _ rfl (by decide) (by decide)) <|
  Chain.cons (stepAt_binary 1838 _ _ _ _ rfl (by decide) (by decide)) <|
  Chain.cons (stepAt_nullary 1839 _ _ rfl) <|
  Chain.cons (stepAt_unary 1840 _ _ _ rfl (by decide)) <|
  Chain.cons (stepAt_binary 1841 _ _ _ _ rfl (by decide) (by decide)) <|
  Chain.cons (stepAt_nullary 1842 _ _ rfl) <|
  Chain.cons (stepAt_unary 1843 _ _ _ rfl (by decide)) <|
  Chain.cons (stepAt_binary 1844 _ _ _ _ rfl (by decide) (by decide)) <|
  Chain.cons (stepAt_ternary 1845 _ _ _ _ _ rfl (by decide) (by decide) (by decide)) <|
  Chain.cons (stepAt_nullary 1846 _ _ rfl) <|
  Chain.cons (stepAt_unary 1847 _ _ _ rfl (by decide)) <|
  Chain.cons (stepAt_binary 1848 _ _ _ _ rfl (by decide) (by decide)) <|
  Chain.cons (stepAt_nullary 1849 _ _ rfl) <|
  Chain.cons (stepAt_unary 1850 _ _ _ rfl (by decide)) <|
  Chain.cons (stepAt_binary 1851 _ _ _ _ rfl (by decide) (by decide)) <|
  Chain.cons (stepAt_ternary 1852 _ _ _ _ _ rfl (by decide) (by decide) (by decide)) <|
  Chain.cons (stepAt_unary 1853 _ _ _ rfl (by decide)) <|
  Chain.cons (stepAt_unary 1854 _ _ _ rfl (by decide)) <|
  Chain.cons (stepAt_binary 1855 _ _ _ _ rfl (by decide) (by decide)) <|
  Chain.cons (stepAt_binary 1856 _ _ _ _ rfl (by decide) (by decide)) <|
  Chain.cons (stepAt_nullary 1857 _ _ rfl) <|
  Chain.cons (stepAt_unary 1858 _ _ _ rfl (by decide)) <|
  Chain.cons (stepAt_binary 1859 _ _ _ _ rfl (by decide) (by decide)) <|
  Chain.cons (stepAt_nullary 1860 _ _ rfl) <|
  Chain.cons (stepAt_unary 1861 _ _ _ rfl (by decide)) <|
  Chain.cons (stepAt_binary 1862 _ _ _ _ rfl (by decide) (by decide)) <|
  Chain.cons (stepAt_ternary 1863 _ _ _ _ _ rfl (by decide) (by decide) (by decide)) <|
  Chain.cons (stepAt_nullary 1864 _ _ rfl) <|
  Chain.cons (stepAt_unary 1865 _ _ _ rfl (by decide)) <|
  Chain.cons (stepAt_binary 1866 _ _ _ _ rfl (by decide) (by decide)) <|
  Chain.cons (stepAt_nullary 1867 _ _ rfl) <|
  Chain.cons (stepAt_unary 1868 _ _ _ rfl (by decide)) <|
  Chain.cons (stepAt_binary 1869 _ _ _ _ rfl (by decide) (by decide)) <|
  Chain.cons (stepAt_ternary 1870 _ _ _ _ _ rfl (by decide) (by decide) (by decide)) <|
  Chain.cons (stepAt_unary 1871 _ _ _ rfl (by decide)) <|
  Chain.cons (stepAt_unary 1872 _ _ _ rfl (by decide)) <|
  Chain.cons (stepAt_binary 1873 _ _ _ _ rfl (by decide) (by decide)) <|
  Chain.cons (stepAt_binary 1874 _ _ _ _ rfl (by decide) (by decide)) <|
  Chain.cons (stepAt_nullary 1875 _ _ rfl) <|
  Chain.cons (stepAt_unary 1876 _ _ _ rfl (by decide)) <|
  Chain.cons (stepAt_binary 1877 _ _ _ _ rfl (by decide) (by decide)) <|
  Chain.cons (stepAt_nullary 1878 _ _ rfl) <|
  Chain.cons (stepAt_unary 1879 _ _ _ rfl (by decide)) <|
  Chain.cons (stepAt_binary 1880 _ _ _ _ rfl (by decide) (by decide)) <|
  Chain.cons (stepAt_ternary 1881 _ _ _ _ _ rfl (by decide) (by decide) (by decide)) <|
  Chain.cons (stepAt_nullary 1882 _ _ rfl) <|
  Chain.cons (stepAt_unary 1883 _ _ _ rfl (by decide)) <|
  Chain.cons (stepAt_binary 1884 _ _ _ _ rfl (by decide) (by decide)) <|
  Chain.cons (stepAt_nullary 1885 _ _ rfl) <|
  Chain.cons (stepAt_unary 1886 _ _ _ rfl (by decide)) <|
  Chain.cons (stepAt_binary 1887 _ _ _ _ rfl (by decide) (by decide)) <|
  Chain.cons (stepAt_ternary 1888 _ _ _ _ _ rfl (by decide) (by decide) (by decide)) <|
  Chain.cons (stepAt_unary 1889 _ _ _ rfl (by decide)) <|
  Chain.cons (stepAt_unary 1890 _ _ _ rfl (by decide)) <|
  Chain.cons (stepAt_binary 1891 _ _ _ _ rfl (by decide) (by decide)) <|
  Chain.cons (stepAt_binary 1892 _ _ _ _ rfl (by decide) (by decide)) <|
  Chain.cons (stepAt_nullary 1893 _ _ rfl) <|
  Chain.cons (stepAt_unary 1894 _ _ _ rfl (by decide)) <|
  Chain.cons (stepAt_binary 1895 _ _ _ _ rfl (by decide) (by decide)) <|
  Chain.cons (stepAt_unary 1896 _ _ _ rfl (by decide)) <|
  Chain.cons (stepAt_unary 1897 _ _ _ rfl (by decide)) <|
  Chain.cons (stepAt_binary 1898 _ _ _ _ rfl (by decide) (by decide)) <|
  Chain.cons (stepAt_nullary 1899 _ _ rfl) <|
  Chain.cons (stepAt_unary 1900 _ _ _ rfl (by decide)) <|
  Chain.cons (stepAt_binary 1901 _ _ _ _ rfl (by decide) (by decide)) <|
  Chain.cons (stepAt_unary 1902 _ _ _ rfl (by decide)) <|
  Chain.cons (stepAt_unary 1903 _ _ _ rfl (by decide)) <|
  Chain.cons (stepAt_binary 1904 _ _ _ _ rfl (by decide) (by decide)) <|
  Chain.cons (stepAt_unary 1905 _ _ _ rfl (by decide)) <|
  Chain.cons (stepAt_unary 1906 _ _ _ rfl (by decide)) <|
  Chain.cons (stepAt_binary 1907 _ _ _ _ rfl (by decide) (by decide)) <|
  Chain.cons (stepAt_nullary 1908 _ _ rfl) <|
  Chain.cons (stepAt_unary 1909 _ _ _ rfl (by decide)) <|
  Chain.cons (stepAt_binary 1910 _ _ _ _ rfl (by decide) (by decide)) <|
  Chain.cons (stepAt_unary 1911 _ _ _ rfl (by decide)) <|
  Chain.cons (stepAt_unary 1912 _ _ _ rfl (by decide)) <|
  Chain.cons (stepAt_binary 1913 _ _ _ _ rfl (by decide) (by decide)) <|
  Chain.cons (stepAt_binary 1914 _ _ _ _ rfl (by decide) (by decide)) <|
  Chain.cons (stepAt_nullary 1915 _ _ rfl) <|
  Chain.cons (stepAt_unary 1916 _ _ _ rfl (by decide)) <|
  Chain.cons (stepAt_binary 1917 _ _ _ _ rfl (by decide) (by decide)) <|
  Chain.cons (stepAt_unary 1918 _ _ _ rfl (by decide)) <|
  Chain.cons (stepAt_unary 1919 _ _ _ rfl (by decide)) <|
  Chain.cons (stepAt_binary 1920 _ _ _ _ rfl (by decide) (by decide)) <|
  Chain.cons (stepAt_unary 1921 _ _ _ rfl (by decide)) <|
  Chain.cons (stepAt_unary 1922 _ _ _ rfl (by decide)) <|
  Chain.cons (stepAt_binary 1923 _ _ _ _ rfl (by decide) (by decide)) <|
  Chain.cons (stepAt_binary 1924 _ _ _ _ rfl (by decide) (by decide)) <|
  Chain.cons (stepAt_unary 1925 _ _ _ rfl (by decide)) <|
  Chain.cons (stepAt_unary 1926 _ _ _ rfl (by decide)) <|
  Chain.cons (stepAt_binary 1927 _ _ _ _ rfl (by decide) (by decide)) <|
  Chain.cons (stepAt_unary 1928 _ _ _ rfl (by decide)) <|
  Chain.cons (stepAt_unary 1929 _ _ _ rfl (by decide)) <|
  Chain.cons (stepAt_binary 1930 _ _ _ _ rfl (by decide) (by decide)) <|
  Chain.cons (stepAt_binary 1931 _ _ _ _ rfl (by decide) (by decide)) <|
  Chain.cons (stepAt_unary 1932 _ _ _ rfl (by decide)) <|
  Chain.cons (stepAt_nullary 1933 _ _ rfl) <|
  Chain.cons (stepAt_unary 1934 _ _ _ rfl (by decide)) <|
  Chain.cons (stepAt_binary 1935 _ _ _ _ rfl (by decide) (by decide)) <|
  Chain.cons (stepAt_nullary 1936 _ _ rfl) <|
  Chain.cons (stepAt_unary 1937 _ _ _ rfl (by decide)) <|
  Chain.cons (stepAt_binary 1938 _ _ _ _ rfl (by decide) (by decide)) <|
  Chain.cons (stepAt_ternary 1939 _ _ _ _ _ rfl (by decide) (by decide) (by decide)) <|
  Chain.cons (stepAt_unary 1940 _ _ _ rfl (by decide)) <|
  Chain.cons (stepAt_binary 1941 _ _ _ _ rfl (by decide) (by decide)) <|
  Chain.cons (stepAt_unary 1942 _ _ _ rfl (by decide)) <|
  Chain.cons (stepAt_reshape 1943 _ _ _ _ rfl (by decide)) <|
  Chain.cons (stepAt_nullary 1944 _ _ rfl) <|
  Chain.cons (stepAt_unary 1945 _ _ _ rfl (by decide)) <|
  Chain.cons (stepAt_binary 1946 _ _ _ _ rfl (by decide) (by decide)) <|
  Chain.cons (stepAt_nullary 1947 _ _ rfl) <|
  Chain.cons (stepAt_unary 1948 _ _ _ rfl (by decide)) <|
  Chain.cons (stepAt_binary 1949 _ _ _ _ rfl (by decide) (by decide)) <|
  Chain.cons (stepAt_nullary 1950 _ _ rfl) <|
  Chain.cons (stepAt_unary 1951 _ _ _ rfl (by decide)) <|
  Chain.cons (stepAt_binary 1952 _ _ _ _ rfl (by decide) (by decide)) <|
  Chain.cons (stepAt_unary 1953 _ _ _ rfl (by decide)) <|
  Chain.cons (stepAt_reshape 1954 _ _ _ _ rfl (by decide)) <|
  Chain.cons (stepAt_nullary 1955 _ _ rfl) <|
  Chain.cons (stepAt_unary 1956 _ _ _ rfl (by decide)) <|
  Chain.cons (stepAt_binary 1957 _ _ _ _ rfl (by decide) (by decide)) <|
  Chain.cons (stepAt_nullary 1958 _ _ rfl) <|
  Chain.cons (stepAt_unary 1959 _ _ _ rfl (by decide)) <|
  Chain.cons (stepAt_binary 1960 _ _ _ _ rfl (by decide) (by decide)) <|
  Chain.cons (stepAt_nullary 1961 _ _ rfl) <|
  Chain.cons (stepAt_unary 1962 _ _ _ rfl (by decide)) <|
  Chain.cons (stepAt_binary 1963 _ _ _ _ rfl (by decide) (by decide)) <|
  Chain.cons (stepAt_unary 1964 _ _ _ rfl (by decide)) <|
  Chain.cons (stepAt_unary 1965 _ _ _ rfl (by decide)) <|
  Chain.cons (stepAt_binary 1966 _ _ _ _ rfl (by decide) (by decide)) <|
  Chain.cons (stepAt_binary 1967 _ _ _ _ rfl (by decide) (by decide)) <|
  Chain.cons (stepAt_unary 1968 _ _ _ rfl (by decide)) <|
  Chain.cons (stepAt_nullary 1969 _ _ rfl) <|
  Chain.cons (stepAt_nullary 1970 _ _ rfl) <|
  Chain.nil
theorem hostOps0_80_length : (hostOps0_80 : List (HloOp τ sig (Elt F))).length = 150 := rfl

set_option maxHeartbeats 4000000 in
/-- Operations 1943 … 1948 of the program, writing buffers 1971 … 1976. -/
theorem hostOps0_81_chain : Chain 1971 (hostOps0_81 : List (HloOp τ sig (Elt F))) :=
  Chain.cons (stepAt_unary 1971 _ _ _ rfl (by decide)) <|
  Chain.cons (stepAt_unary 1972 _ _ _ rfl (by decide)) <|
  Chain.cons (stepAt_binary 1973 _ _ _ _ rfl (by decide) (by decide)) <|
  Chain.cons (stepAt_unary 1974 _ _ _ rfl (by decide)) <|
  Chain.cons (stepAt_unary 1975 _ _ _ rfl (by decide)) <|
  Chain.cons (stepAt_binary 1976 _ _ _ _ rfl (by decide) (by decide)) <|
  Chain.nil
theorem hostOps0_81_length : (hostOps0_81 : List (HloOp τ sig (Elt F))).length = 6 := rfl

set_option maxHeartbeats 4000000 in
/-- Operations 1949 … 1953 of the program, writing buffers 1977 … 1981. -/
theorem hostOps0_82_chain : Chain 1977 (hostOps0_82 : List (HloOp τ sig (Elt F))) :=
  Chain.cons (stepAt_nullary 1977 _ _ rfl) <|
  Chain.cons (stepAt_unary 1978 _ _ _ rfl (by decide)) <|
  Chain.cons (stepAt_binary 1979 _ _ _ _ rfl (by decide) (by decide)) <|
  Chain.cons (stepAt_nullary 1980 _ _ rfl) <|
  Chain.cons (stepAt_nullary 1981 _ _ rfl) <|
  Chain.nil
theorem hostOps0_82_length : (hostOps0_82 : List (HloOp τ sig (Elt F))).length = 5 := rfl

set_option maxHeartbeats 4000000 in
/-- Operations 1954 … 1959 of the program, writing buffers 1982 … 1987. -/
theorem hostOps0_83_chain : Chain 1982 (hostOps0_83 : List (HloOp τ sig (Elt F))) :=
  Chain.cons (stepAt_unary 1982 _ _ _ rfl (by decide)) <|
  Chain.cons (stepAt_unary 1983 _ _ _ rfl (by decide)) <|
  Chain.cons (stepAt_binary 1984 _ _ _ _ rfl (by decide) (by decide)) <|
  Chain.cons (stepAt_unary 1985 _ _ _ rfl (by decide)) <|
  Chain.cons (stepAt_unary 1986 _ _ _ rfl (by decide)) <|
  Chain.cons (stepAt_binary 1987 _ _ _ _ rfl (by decide) (by decide)) <|
  Chain.nil
theorem hostOps0_83_length : (hostOps0_83 : List (HloOp τ sig (Elt F))).length = 6 := rfl

set_option maxHeartbeats 4000000 in
/-- Operations 1960 … 1962 of the program, writing buffers 1988 … 1990. -/
theorem hostOps0_84_chain : Chain 1988 (hostOps0_84 : List (HloOp τ sig (Elt F))) :=
  Chain.cons (stepAt_unary 1988 _ _ _ rfl (by decide)) <|
  Chain.cons (stepAt_nullary 1989 _ _ rfl) <|
  Chain.cons (stepAt_nullary 1990 _ _ rfl) <|
  Chain.nil
theorem hostOps0_84_length : (hostOps0_84 : List (HloOp τ sig (Elt F))).length = 3 := rfl

set_option maxHeartbeats 4000000 in
/-- Operations 1963 … 1968 of the program, writing buffers 1991 … 1996. -/
theorem hostOps0_85_chain : Chain 1991 (hostOps0_85 : List (HloOp τ sig (Elt F))) :=
  Chain.cons (stepAt_unary 1991 _ _ _ rfl (by decide)) <|
  Chain.cons (stepAt_unary 1992 _ _ _ rfl (by decide)) <|
  Chain.cons (stepAt_binary 1993 _ _ _ _ rfl (by decide) (by decide)) <|
  Chain.cons (stepAt_unary 1994 _ _ _ rfl (by decide)) <|
  Chain.cons (stepAt_unary 1995 _ _ _ rfl (by decide)) <|
  Chain.cons (stepAt_binary 1996 _ _ _ _ rfl (by decide) (by decide)) <|
  Chain.nil
theorem hostOps0_85_length : (hostOps0_85 : List (HloOp τ sig (Elt F))).length = 6 := rfl

set_option maxHeartbeats 4000000 in
/-- Operations 1969 … 1973 of the program, writing buffers 1997 … 2001. -/
theorem hostOps0_86_chain : Chain 1997 (hostOps0_86 : List (HloOp τ sig (Elt F))) :=
  Chain.cons (stepAt_nullary 1997 _ _ rfl) <|
  Chain.cons (stepAt_unary 1998 _ _ _ rfl (by decide)) <|
  Chain.cons (stepAt_binary 1999 _ _ _ _ rfl (by decide) (by decide)) <|
  Chain.cons (stepAt_nullary 2000 _ _ rfl) <|
  Chain.cons (stepAt_nullary 2001 _ _ rfl) <|
  Chain.nil
theorem hostOps0_86_length : (hostOps0_86 : List (HloOp τ sig (Elt F))).length = 5 := rfl

set_option maxHeartbeats 4000000 in
/-- Operations 1974 … 1979 of the program, writing buffers 2002 … 2007. -/
theorem hostOps0_87_chain : Chain 2002 (hostOps0_87 : List (HloOp τ sig (Elt F))) :=
  Chain.cons (stepAt_unary 2002 _ _ _ rfl (by decide)) <|
  Chain.cons (stepAt_unary 2003 _ _ _ rfl (by decide)) <|
  Chain.cons (stepAt_binary 2004 _ _ _ _ rfl (by decide) (by decide)) <|
  Chain.cons (stepAt_unary 2005 _ _ _ rfl (by decide)) <|
  Chain.cons (stepAt_unary 2006 _ _ _ rfl (by decide)) <|
  Chain.cons (stepAt_binary 2007 _ _ _ _ rfl (by decide) (by decide)) <|
  Chain.nil
theorem hostOps0_87_length : (hostOps0_87 : List (HloOp τ sig (Elt F))).length = 6 := rfl

set_option maxHeartbeats 4000000 in
/-- Operations 1980 … 2129 of the program, writing buffers 2008 … 2157. -/
theorem hostOps0_88_chain : Chain 2008 (hostOps0_88 : List (HloOp τ sig (Elt F))) :=
  Chain.cons (stepAt_nullary 2008 _ _ rfl) <|
  Chain.cons (stepAt_unary 2009 _ _ _ rfl (by decide)) <|
  Chain.cons (stepAt_binary 2010 _ _ _ _ rfl (by decide) (by decide)) <|
  Chain.cons (stepAt_nullary 2011 _ _ rfl) <|
  Chain.cons (stepAt_unary 2012 _ _ _ rfl (by decide)) <|
  Chain.cons (stepAt_binary 2013 _ _ _ _ rfl (by decide) (by decide)) <|
  Chain.cons (stepAt_ternary 2014 _ _ _ _ _ rfl (by decide) (by decide) (by decide)) <|
  Chain.cons (stepAt_nullary 2015 _ _ rfl) <|
  Chain.cons (stepAt_unary 2016 _ _ _ rfl (by decide)) <|
  Chain.cons (stepAt_binary 2017 _ _ _ _ rfl (by decide) (by decide)) <|
  Chain.cons (stepAt_nullary 2018 _ _ rfl) <|
  Chain.cons (stepAt_unary 2019 _ _ _ rfl (by decide)) <|
  Chain.cons (stepAt_binary 2020 _ _ _ _ rfl (by decide) (by decide)) <|
  Chain.cons (stepAt_ternary 2021 _ _ _ _ _ rfl (by decide) (by decide) (by decide)) <|
  Chain.cons (stepAt_unary 2022 _ _ _ rfl (by decide)) <|
  Chain.cons (stepAt_unary 2023 _ _ _ rfl (by decide)) <|
  Chain.cons (stepAt_binary 2024 _ _ _ _ rfl (by decide) (by decide)) <|
  Chain.cons (stepAt_binary 2025 _ _ _ _ rfl (by decide) (by decide)) <|
  Chain.cons (stepAt_nullary 2026 _ _ rfl) <|
  Chain.cons (stepAt_unary 2027 _ _ _ rfl (by decide)) <|
  Chain.cons (stepAt_binary 2028 _ _ _ _ rfl (by decide) (by decide)) <|
  Chain.cons (stepAt_nullary 2029 _ _ rfl) <|
  Chain.cons (stepAt_unary 2030 _ _ _ rfl (by decide)) <|
  Chain.cons (stepAt_binary 2031 _ _ _ _ rfl (by decide) (by decide)) <|
  Chain.cons (stepAt_ternary 2032 _ _ _ _ _ rfl (by decide) (by decide) (by decide)) <|
  Chain.cons (stepAt_nullary 2033 _ _ rfl) <|
  Chain.cons (stepAt_unary 2034 _ _ _ rfl (by decide)) <|
  Chain.cons (stepAt_binary 2035 _ _ _ _ rfl (by decide) (by decide)) <|
  Chain.cons (stepAt_nullary 2036 _ _ rfl) <|
  Chain.cons (stepAt_unary 2037 _ _ _ rfl (by decide)) <|
  Chain.cons (stepAt_binary 2038 _ _ _ _ rfl (by decide) (by decide)) <|
  Chain.cons (stepAt_ternary 2039 _ _ _ _ _ rfl (by decide) (by decide) (by decide)) <|
  Chain.cons (stepAt_unary 2040 _ _ _ rfl (by decide)) <|
  Chain.cons (stepAt_unary 2041 _ _ _ rfl (by decide)) <|
  Chain.cons (stepAt_binary 2042 _ _ _ _ rfl (by decide) (by decide)) <|
  Chain.cons (stepAt_binary 2043 _ _ _ _ rfl (by decide) (by decide)) <|
  Chain.cons (stepAt_nullary 2044 _ _ rfl) <|
  Chain.cons (stepAt_unary 2045 _ _ _ rfl (by decide)) <|
  Chain.cons (stepAt_binary 2046 _ _ _ _ rfl (by decide) (by decide)) <|
  Chain.cons (stepAt_nullary 2047 _ _ rfl) <|
  Chain.cons (stepAt_unary 2048 _ _ _ rfl (by decide)) <|
  Chain.cons (stepAt_binary 2049 _ _ _ _ rfl (by decide) (by decide)) <|
  Chain.cons (stepAt_ternary 2050 _ _ _ _ _ rfl (by decide) (by decide) (by decide)) <|
  Chain.cons (stepAt_nullary 2051 _ _ rfl) <|
  Chain.cons (stepAt_unary 2052 _ _ _ rfl (by decide)) <|
  Chain.cons (stepAt_binary 2053 _ _ _ _ rfl (by decide) (by decide)) <|
  Chain.cons (stepAt_nullary 2054 _ _ rfl) <|
  Chain.cons (stepAt_unary 2055 _ _ _ rfl (by decide)) <|
  Chain.cons (stepAt_binary 2056 _ _ _ _ rfl (by decide) (by decide)) <|
  Chain.cons (stepAt_ternary 2057 _ _ _ _ _ rfl (by decide) (by decide) (by decide)) <|
  Chain.cons (stepAt_unary 2058 _ _ _ rfl (by decide)) <|
  Chain.cons (stepAt_unary 2059 _ _ _ rfl (by decide)) <|
  Chain.cons (stepAt_binary 2060 _ _ _ _ rfl (by decide) (by decide)) <|
  Chain.cons (stepAt_binary 2061 _ _ _ _ rfl (by decide) (by decide)) <|
  Chain.cons (stepAt_nullary 2062 _ _ rfl) <|
  Chain.cons (stepAt_unary 2063 _ _ _ rfl (by decide)) <|
  Chain.cons (stepAt_binary 2064 _ _ _ _ rfl (by decide) (by decide)) <|
  Chain.cons (stepAt_nullary 2065 _ _ rfl) <|
  Chain.cons (stepAt_unary 2066 _ _ _ rfl (by decide)) <|
  Chain.cons (stepAt_binary 2067 _ _ _ _ rfl (by decide) (by decide)) <|
  Chain.cons (stepAt_ternary 2068 _ _ _ _ _ rfl (by decide) (by decide) (by decide)) <|
  Chain.cons (stepAt_nullary 2069 _ _ rfl) <|
  Chain.cons (stepAt_unary 2070 _ _ _ rfl (by decide)) <|
  Chain.cons (stepAt_binary 2071 _ _ _ _ rfl (by decide) (by decide)) <|
  Chain.cons (stepAt_nullary 2072 _ _ rfl) <|
  Chain.cons (stepAt_unary 2073 _ _ _ rfl (by decide)) <|
  Chain.cons (stepAt_binary 2074 _ _ _ _ rfl (by decide) (by decide)) <|
  Chain.cons (stepAt_ternary 2075 _ _ _ _ _ rfl (by decide) (by decide) (by decide)) <|
  Chain.cons (stepAt_unary 2076 _ _ _ rfl (by decide)) <|
  Chain.cons (stepAt_unary 2077 _ _ _ rfl (by decide)) <|
  Chain.cons (stepAt_binary 2078 _ _ _ _ rfl (by decide) (by decide)) <|
  Chain.cons (stepAt_binary 2079 _ _ _ _ rfl (by decide) (by decide)) <|
  Chain.cons (stepAt_nullary 2080 _ _ rfl) <|
  Chain.cons (stepAt_unary 2081 _ _ _ rfl (by decide)) <|
  Chain.cons (stepAt_binary 2082 _ _ _ _ rfl (by decide) (by decide)) <|
  Chain.cons (stepAt_unary 2083 _ _ _ rfl (by decide)) <|
  Chain.cons (stepAt_unary 2084 _ _ _ rfl (by decide)) <|
  Chain.cons (stepAt_binary 2085 _ _ _ _ rfl (by decide) (by decide)) <|
  Chain.cons (stepAt_nullary 2086 _ _ rfl) <|
  Chain.cons (stepAt_unary 2087 _ _ _ rfl (by decide)) <|
  Chain.cons (stepAt_binary 2088 _ _ _ _ rfl (by decide) (by decide)) <|
  Chain.cons (stepAt_unary 2089 _ _ _ rfl (by decide)) <|
  Chain.cons (stepAt_unary 2090 _ _ _ rfl (by decide)) <|
  Chain.cons (stepAt_binary 2091 _ _ _ _ rfl (by decide) (by decide)) <|
  Chain.cons (stepAt_unary 2092 _ _ _ rfl (by decide)) <|
  Chain.cons (stepAt_unary 2093 _ _ _ rfl (by decide)) <|
  Chain.cons (stepAt_binary 2094 _ _ _ _ rfl (by decide) (by decide)) <|
  Chain.cons (stepAt_nullary 2095 _ _ rfl) <|
  Chain.cons (stepAt_unary 2096 _ _ _ rfl (by decide)) <|
  Chain.cons (stepAt_binary 2097 _ _ _ _ rfl (by decide) (by decide)) <|
  Chain.cons (stepAt_unary 2098 _ _ _ rfl (by decide)) <|
  Chain.cons (stepAt_unary 2099 _ _ _ rfl (by decide)) <|
  Chain.cons (stepAt_binary 2100 _ _ _ _ rfl (by decide) (by decide)) <|
  Chain.cons (stepAt_binary 2101 _ _ _ _ rfl (by decide) (by decide)) <|
  Chain.cons (stepAt_nullary 2102 _ _ rfl) <|
  Chain.cons (stepAt_unary 2103 _ _ _ rfl (by decide)) <|
  Chain.cons (stepAt_binary 2104 _ _ _ _ rfl (by decide) (by decide)) <|
  Chain.cons (stepAt_unary 2105 _ _ _ rfl (by decide)) <|
  Chain.cons (stepAt_unary 2106 _ _ _ rfl (by decide)) <|
  Chain.cons (stepAt_binary 2107 _ _ _ _ rfl (by decide) (by decide)) <|
  Chain.cons (stepAt_unary 2108 _ _ _ rfl (by decide)) <|
  Chain.cons (stepAt_unary 2109 _ _ _ rfl (by decide)) <|
  Chain.cons (stepAt_binary 2110 _ _ _ _ rfl (by decide) (by decide)) <|
  Chain.cons (stepAt_binary 2111 _ _ _ _ rfl (by decide) (by decide)) <|
  Chain.cons (stepAt_unary 2112 _ _ _ rfl (by decide)) <|
  Chain.cons (stepAt_unary 2113 _ _ _ rfl (by decide)) <|
  Chain.cons (stepAt_binary 2114 _ _ _ _ rfl (by decide) (by decide)) <|
  Chain.cons (stepAt_unary 2115 _ _ _ rfl (by decide)) <|
  Chain.cons (stepAt_unary 2116 _ _ _ rfl (by decide)) <|
  Chain.cons (stepAt_binary 2117 _ _ _ _ rfl (by decide) (by decide)) <|
  Chain.cons (stepAt_binary 2118 _ _ _ _ rfl (by decide) (by decide)) <|
  Chain.cons (stepAt_unary 2119 _ _ _ rfl (by decide)) <|
  Chain.cons (stepAt_nullary 2120 _ _ rfl) <|
  Chain.cons (stepAt_unary 2121 _ _ _ rfl (by decide)) <|
  Chain.cons (stepAt_binary 2122 _ _ _ _ rfl (by decide) (by decide)) <|
  Chain.cons (stepAt_nullary 2123 _ _ rfl) <|
  Chain.cons (stepAt_unary 2124 _ _ _ rfl (by decide)) <|
  Chain.cons (stepAt_binary 2125 _ _ _ _ rfl (by decide) (by decide)) <|
  Chain.cons (stepAt_ternary 2126 _ _ _ _ _ rfl (by decide) (by decide) (by decide)) <|
  Chain.cons (stepAt_unary 2127 _ _ _ rfl (by decide)) <|
  Chain.cons (stepAt_binary 2128 _ _ _ _ rfl (by decide) (by decide)) <|
  Chain.cons (stepAt_unary 2129 _ _ _ rfl (by decide)) <|
  Chain.cons (stepAt_reshape 2130 _ _ _ _ rfl (by decide)) <|
  Chain.cons (stepAt_nullary 2131 _ _ rfl) <|
  Chain.cons (stepAt_unary 2132 _ _ _ rfl (by decide)) <|
  Chain.cons (stepAt_binary 2133 _ _ _ _ rfl (by decide) (by decide)) <|
  Chain.cons (stepAt_nullary 2134 _ _ rfl) <|
  Chain.cons (stepAt_unary 2135 _ _ _ rfl (by decide)) <|
  Chain.cons (stepAt_binary 2136 _ _ _ _ rfl (by decide) (by decide)) <|
  Chain.cons (stepAt_nullary 2137 _ _ rfl) <|
  Chain.cons (stepAt_unary 2138 _ _ _ rfl (by decide)) <|
  Chain.cons (stepAt_binary 2139 _ _ _ _ rfl (by decide) (by decide)) <|
  Chain.cons (stepAt_unary 2140 _ _ _ rfl (by decide)) <|
  Chain.cons (stepAt_reshape 2141 _ _ _ _ rfl (by decide)) <|
  Chain.cons (stepAt_nullary 2142 _ _ rfl) <|
  Chain.cons (stepAt_unary 2143 _ _ _ rfl (by decide)) <|
  Chain.cons (stepAt_binary 2144 _ _ _ _ rfl (by decide) (by decide)) <|
  Chain.cons (stepAt_nullary 2145 _ _ rfl) <|
  Chain.cons (stepAt_unary 2146 _ _ _ rfl (by decide)) <|
  Chain.cons (stepAt_binary 2147 _ _ _ _ rfl (by decide) (by decide)) <|
  Chain.cons (stepAt_nullary 2148 _ _ rfl) <|
  Chain.cons (stepAt_unary 2149 _ _ _ rfl (by decide)) <|
  Chain.cons (stepAt_binary 2150 _ _ _ _ rfl (by decide) (by decide)) <|
  Chain.cons (stepAt_unary 2151 _ _ _ rfl (by decide)) <|
  Chain.cons (stepAt_unary 2152 _ _ _ rfl (by decide)) <|
  Chain.cons (stepAt_binary 2153 _ _ _ _ rfl (by decide) (by decide)) <|
  Chain.cons (stepAt_binary 2154 _ _ _ _ rfl (by decide) (by decide)) <|
  Chain.cons (stepAt_unary 2155 _ _ _ rfl (by decide)) <|
  Chain.cons (stepAt_nullary 2156 _ _ rfl) <|
  Chain.cons (stepAt_nullary 2157 _ _ rfl) <|
  Chain.nil
theorem hostOps0_88_length : (hostOps0_88 : List (HloOp τ sig (Elt F))).length = 150 := rfl

set_option maxHeartbeats 4000000 in
/-- Operations 2130 … 2135 of the program, writing buffers 2158 … 2163. -/
theorem hostOps0_89_chain : Chain 2158 (hostOps0_89 : List (HloOp τ sig (Elt F))) :=
  Chain.cons (stepAt_unary 2158 _ _ _ rfl (by decide)) <|
  Chain.cons (stepAt_unary 2159 _ _ _ rfl (by decide)) <|
  Chain.cons (stepAt_binary 2160 _ _ _ _ rfl (by decide) (by decide)) <|
  Chain.cons (stepAt_unary 2161 _ _ _ rfl (by decide)) <|
  Chain.cons (stepAt_unary 2162 _ _ _ rfl (by decide)) <|
  Chain.cons (stepAt_binary 2163 _ _ _ _ rfl (by decide) (by decide)) <|
  Chain.nil
theorem hostOps0_89_length : (hostOps0_89 : List (HloOp τ sig (Elt F))).length = 6 := rfl

set_option maxHeartbeats 4000000 in
/-- Operations 2136 … 2140 of the program, writing buffers 2164 … 2168. -/
theorem hostOps0_90_chain : Chain 2164 (hostOps0_90 : List (HloOp τ sig (Elt F))) :=
  Chain.cons (stepAt_nullary 2164 _ _ rfl) <|
  Chain.cons (stepAt_unary 2165 _ _ _ rfl (by decide)) <|
  Chain.cons (stepAt_binary 2166 _ _ _ _ rfl (by decide) (by decide)) <|
  Chain.cons (stepAt_nullary 2167 _ _ rfl) <|
  Chain.cons (stepAt_nullary 2168 _ _ rfl) <|
  Chain.nil
theorem hostOps0_90_length : (hostOps0_90 : List (HloOp τ sig (Elt F))).length = 5 := rfl

set_option maxHeartbeats 4000000 in
/-- Operations 2141 … 2146 of the program, writing buffers 2169 … 2174. -/
theorem hostOps0_91_chain : Chain 2169 (hostOps0_91 : List (HloOp τ sig (Elt F))) :=
  Chain.cons (stepAt_unary 2169 _ _ _ rfl (by decide)) <|
  Chain.cons (stepAt_unary 2170 _ _ _ rfl (by decide)) <|
  Chain.cons (stepAt_binary 2171 _ _ _ _ rfl (by decide) (by decide)) <|
  Chain.cons (stepAt_unary 2172 _ _ _ rfl (by decide)) <|
  Chain.cons (stepAt_unary 2173 _ _ _ rfl (by decide)) <|
  Chain.cons (stepAt_binary 2174 _ _ _ _ rfl (by decide) (by decide)) <|
  Chain.nil
theorem hostOps0_91_length : (hostOps0_91 : List (HloOp τ sig (Elt F))).length = 6 := rfl

set_option maxHeartbeats 4000000 in
/-- Operations 2147 … 2149 of the program, writing buffers 2175 … 2177. -/
theorem hostOps0_92_chain : Chain 2175 (hostOps0_92 : List (HloOp τ sig (Elt F))) :=
  Chain.cons (stepAt_unary 2175 _ _ _ rfl (by decide)) <|
  Chain.cons (stepAt_nullary 2176 _ _ rfl) <|
  Chain.cons (stepAt_nullary 2177 _ _ rfl) <|
  Chain.nil
theorem hostOps0_92_length : (hostOps0_92 : List (HloOp τ sig (Elt F))).length = 3 := rfl

set_option maxHeartbeats 4000000 in
/-- Operations 2150 … 2155 of the program, writing buffers 2178 … 2183. -/
theorem hostOps0_93_chain : Chain 2178 (hostOps0_93 : List (HloOp τ sig (Elt F))) :=
  Chain.cons (stepAt_unary 2178 _ _ _ rfl (by decide)) <|
  Chain.cons (stepAt_unary 2179 _ _ _ rfl (by decide)) <|
  Chain.cons (stepAt_binary 2180 _ _ _ _ rfl (by decide) (by decide)) <|
  Chain.cons (stepAt_unary 2181 _ _ _ rfl (by decide)) <|
  Chain.cons (stepAt_unary 2182 _ _ _ rfl (by decide)) <|
  Chain.cons (stepAt_binary 2183 _ _ _ _ rfl (by decide) (by decide)) <|
  Chain.nil
theorem hostOps0_93_length : (hostOps0_93 : List (HloOp τ sig (Elt F))).length = 6 := rfl

set_option maxHeartbeats 4000000 in
/-- Operations 2156 … 2160 of the program, writing buffers 2184 … 2188. -/
theorem hostOps0_94_chain : Chain 2184 (hostOps0_94 : List (HloOp τ sig (Elt F))) :=
  Chain.cons (stepAt_nullary 2184 _ _ rfl) <|
  Chain.cons (stepAt_unary 2185 _ _ _ rfl (by decide)) <|
  Chain.cons (stepAt_binary 2186 _ _ _ _ rfl (by decide) (by decide)) <|
  Chain.cons (stepAt_nullary 2187 _ _ rfl) <|
  Chain.cons (stepAt_nullary 2188 _ _ rfl) <|
  Chain.nil
theorem hostOps0_94_length : (hostOps0_94 : List (HloOp τ sig (Elt F))).length = 5 := rfl

set_option maxHeartbeats 4000000 in
/-- Operations 2161 … 2166 of the program, writing buffers 2189 … 2194. -/
theorem hostOps0_95_chain : Chain 2189 (hostOps0_95 : List (HloOp τ sig (Elt F))) :=
  Chain.cons (stepAt_unary 2189 _ _ _ rfl (by decide)) <|
  Chain.cons (stepAt_unary 2190 _ _ _ rfl (by decide)) <|
  Chain.cons (stepAt_binary 2191 _ _ _ _ rfl (by decide) (by decide)) <|
  Chain.cons (stepAt_unary 2192 _ _ _ rfl (by decide)) <|
  Chain.cons (stepAt_unary 2193 _ _ _ rfl (by decide)) <|
  Chain.cons (stepAt_binary 2194 _ _ _ _ rfl (by decide) (by decide)) <|
  Chain.nil
theorem hostOps0_95_length : (hostOps0_95 : List (HloOp τ sig (Elt F))).length = 6 := rfl

set_option maxHeartbeats 4000000 in
/-- Operations 2167 … 2316 of the program, writing buffers 2195 … 2344. -/
theorem hostOps0_96_chain : Chain 2195 (hostOps0_96 : List (HloOp τ sig (Elt F))) :=
  Chain.cons (stepAt_nullary 2195 _ _ rfl) <|
  Chain.cons (stepAt_unary 2196 _ _ _ rfl (by decide)) <|
  Chain.cons (stepAt_binary 2197 _ _ _ _ rfl (by decide) (by decide)) <|
  Chain.cons (stepAt_nullary 2198 _ _ rfl) <|
  Chain.cons (stepAt_unary 2199 _ _ _ rfl (by decide)) <|
  Chain.cons (stepAt_binary 2200 _ _ _ _ rfl (by decide) (by decide)) <|
  Chain.cons (stepAt_ternary 2201 _ _ _ _ _ rfl (by decide) (by decide) (by decide)) <|
  Chain.cons (stepAt_nullary 2202 _ _ rfl) <|
  Chain.cons (stepAt_unary 2203 _ _ _ rfl (by decide)) <|
  Chain.cons (stepAt_binary 2204 _ _ _ _ rfl (by decide) (by decide)) <|
  Chain.cons (stepAt_nullary 2205 _ _ rfl) <|
  Chain.cons (stepAt_unary 2206 _ _ _ rfl (by decide)) <|
  Chain.cons (stepAt_binary 2207 _ _ _ _ rfl (by decide) (by decide)) <|
  Chain.cons (stepAt_ternary 2208 _ _ _ _ _ rfl (by decide) (by decide) (by decide)) <|
  Chain.cons (stepAt_unary 2209 _ _ _ rfl (by decide)) <|
  Chain.cons (stepAt_unary 2210 _ _ _ rfl (by decide)) <|
  Chain.cons (stepAt_binary 2211 _ _ _ _ rfl (by decide) (by decide)) <|
  Chain.cons (stepAt_binary 2212 _ _ _ _ rfl (by decide) (by decide)) <|
  Chain.cons (stepAt_nullary 2213 _ _ rfl) <|
  Chain.cons (stepAt_unary 2214 _ _ _ rfl (by decide)) <|
  Chain.cons (stepAt_binary 2215 _ _ _ _ rfl (by decide) (by decide)) <|
  Chain.cons (stepAt_nullary 2216 _ _ rfl) <|
  Chain.cons (stepAt_unary 2217 _ _ _ rfl (by decide)) <|
  Chain.cons (stepAt_binary 2218 _ _ _ _ rfl (by decide) (by decide)) <|
  Chain.cons (stepAt_ternary 2219 _ _ _ _ _ rfl (by decide) (by decide) (by decide)) <|
  Chain.cons (stepAt_nullary 2220 _ _ rfl) <|
  Chain.cons (stepAt_unary 2221 _ _ _ rfl (by decide)) <|
  Chain.cons (stepAt_binary 2222 _ _ _ _ rfl (by decide) (by decide)) <|
  Chain.cons (stepAt_nullary 2223 _ _ rfl) <|
  Chain.cons (stepAt_unary 2224 _ _ _ rfl (by decide)) <|
  Chain.cons (stepAt_binary 2225 _ _ _ _ rfl (by decide) (by decide)) <|
  Chain.cons (stepAt_ternary 2226 _ _ _ _ _ rfl (by decide) (by decide) (by decide)) <|
  Chain.cons (stepAt_unary 2227 _ _ _ rfl (by decide)) <|
  Chain.cons (stepAt_unary 2228 _ _ _ rfl (by decide)) <|
  Chain.cons (stepAt_binary 2229 _ _ _ _ rfl (by decide) (by decide)) <|
  Chain.cons (stepAt_binary 2230 _ _ _ _ rfl (by decide) (by decide)) <|
  Chain.cons (stepAt_nullary 2231 _ _ rfl) <|
  Chain.cons (stepAt_unary 2232 _ _ _ rfl (by decide)) <|
  Chain.cons (stepAt_binary 2233 _ _ _ _ rfl (by decide) (by decide)) <|
  Chain.cons (stepAt_nullary 2234 _ _ rfl) <|
  Chain.cons (stepAt_unary 2235 _ _ _ rfl (by decide)) <|
  Chain.cons (stepAt_binary 2236 _ _ _ _ rfl (by decide) (by decide)) <|
  Chain.cons (stepAt_ternary 2237 _ _ _ _ _ rfl (by decide) (by decide) (by decide)) <|
  Chain.cons (stepAt_nullary 2238 _ _ rfl) <|
  Chain.cons (stepAt_unary 2239 _ _ _ rfl (by decide)) <|
  Chain.cons (stepAt_binary 2240 _ _ _ _ rfl (by decide) (by decide)) <|
  Chain.cons (stepAt_nullary 2241 _ _ rfl) <|
  Chain.cons (stepAt_unary 2242 _ _ _ rfl (by decide)) <|
  Chain.cons (stepAt_binary 2243 _ _ _ _ rfl (by decide) (by decide)) <|
  Chain.cons (stepAt_ternary 2244 _ _ _ _ _ rfl (by decide) (by decide) (by decide)) <|
  Chain.cons (stepAt_unary 2245 _ _ _ rfl (by decide)) <|
  Chain.cons (stepAt_unary 2246 _ _ _ rfl (by decide)) <|
  Chain.cons (stepAt_binary 2247 _ _ _ _ rfl (by decide) (by decide)) <|
  Chain.cons (stepAt_binary 2248 _ _ _ _ rfl (by decide) (by decide)) <|
  Chain.cons (stepAt_nullary 2249 _ _ rfl) <|
  Chain.cons (stepAt_unary 2250 _ _ _ rfl (by decide)) <|
  Chain.cons (stepAt_binary 2251 _ _ _ _ rfl (by decide) (by decide)) <|
  Chain.cons (stepAt_nullary 2252 _ _ rfl) <|
  Chain.cons (stepAt_unary 2253 _ _ _ rfl (by decide)) <|
  Chain.cons (stepAt_binary 2254 _ _ _ _ rfl (by decide) (by decide)) <|
  Chain.cons (stepAt_ternary 2255 _ _ _ _ _ rfl (by decide) (by decide) (by decide)) <|
  Chain.cons (stepAt_nullary 2256 _ _ rfl) <|
  Chain.cons (stepAt_unary 2257 _ _ _ rfl (by decide)) <|
  Chain.cons (stepAt_binary 2258 _ _ _ _ rfl (by decide) (by decide)) <|
  Chain.cons (stepAt_nullary 2259 _ _ rfl) <|
  Chain.cons (stepAt_unary 2260 _ _ _ rfl (by decide)) <|
  Chain.cons (stepAt_binary 2261 _ _ _ _ rfl (by decide) (by decide)) <|
  Chain.cons (stepAt_ternary 2262 _ _ _ _ _ rfl (by decide) (by decide) (by decide)) <|
  Chain.cons (stepAt_unary 2263 _ _ _ rfl (by decide)) <|
  Chain.cons (stepAt_unary 2264 _ _ _ rfl (by decide)) <|
  Chain.cons (stepAt_binary 2265 _ _ _ _ rfl (by decide) (by decide)) <|
  Chain.cons (stepAt_binary 2266 _ _ _ _ rfl (by decide) (by decide)) <|
  Chain.cons (stepAt_nullary 2267 _ _ rfl) <|
  Chain.cons (stepAt_unary 2268 _ _ _ rfl (by decide)) <|
  Chain.cons (stepAt_binary 2269 _ _ _ _ rfl (by decide) (by decide)) <|
  Chain.cons (stepAt_unary 2270 _ _ _ rfl (by decide)) <|
  Chain.cons (stepAt_unary 2271 _ _ _ rfl (by decide)) <|
  Chain.cons (stepAt_binary 2272 _ _ _ _ rfl (by decide) (by decide)) <|
  Chain.cons (stepAt_nullary 2273 _ _ rfl) <|
  Chain.cons (stepAt_unary 2274 _ _ _ rfl (by decide)) <|
  Chain.cons (stepAt_binary 2275 _ _ _ _ rfl (by decide) (by decide)) <|
  Chain.cons (stepAt_unary 2276 _ _ _ rfl (by decide)) <|
  Chain.cons (stepAt_unary 2277 _ _ _ rfl (by decide)) <|
  Chain.cons (stepAt_binary 2278 _ _ _ _ rfl (by decide) (by decide)) <|
  Chain.cons (stepAt_unary 2279 _ _ _ rfl (by decide)) <|
  Chain.cons (stepAt_unary 2280 _ _ _ rfl (by decide)) <|
  Chain.cons (stepAt_binary 2281 _ _ _ _ rfl (by decide) (by decide)) <|
  Chain.cons (stepAt_nullary 2282 _ _ rfl) <|
  Chain.cons (stepAt_unary 2283 _ _ _ rfl (by decide)) <|
  Chain.cons (stepAt_binary 2284 _ _ _ _ rfl (by decide) (by decide)) <|
  Chain.cons (stepAt_unary 2285 _ _ _ rfl (by decide)) <|
  Chain.cons (stepAt_unary 2286 _ _ _ rfl (by decide)) <|
  Chain.cons (stepAt_binary 2287 _ _ _ _ rfl (by decide) (by decide)) <|
  Chain.cons (stepAt_binary 2288 _ _ _ _ rfl (by decide) (by decide)) <|
  Chain.cons (stepAt_nullary 2289 _ _ rfl) <|
  Chain.cons (stepAt_unary 2290 _ _ _ rfl (by decide)) <|
  Chain.cons (stepAt_binary 2291 _ _ _ _ rfl (by decide) (by decide)) <|
  Chain.cons (stepAt_unary 2292 _ _ _ rfl (by decide)) <|
  Chain.cons (stepAt_unary 2293 _ _ _ rfl (by decide)) <|
  Chain.cons (stepAt_binary 2294 _ _ _ _ rfl (by decide) (by decide)) <|
  Chain.cons (stepAt_unary 2295 _ _ _ rfl (by decide)) <|
  Chain.cons (stepAt_unary 2296 _ _ _ rfl (by decide)) <|
  Chain.cons (stepAt_binary 2297 _ _ _ _ rfl (by decide) (by decide)) <|
  Chain.cons (stepAt_binary 2298 _ _ _ _ rfl (by decide) (by decide)) <|
  Chain.cons (stepAt_unary 2299 _ _ _ rfl (by decide)) <|
  Chain.cons (stepAt_unary 2300 _ _ _ rfl (by decide)) <|
  Chain.cons (stepAt_binary 2301 _ _ _ _ rfl (by decide) (by decide)) <|
  Chain.cons (stepAt_unary 2302 _ _ _ rfl (by decide)) <|
  Chain.cons (stepAt_unary 2303 _ _ _ rfl (by decide)) <|
  Chain.cons (stepAt_binary 2304 _ _ _ _ rfl (by decide) (by decide)) <|
  Chain.cons (stepAt_binary 2305 _ _ _ _ rfl (by decide) (by decide)) <|
  Chain.cons (stepAt_unary 2306 _ _ _ rfl (by decide)) <|
  Chain.cons (stepAt_nullary 2307 _ _ rfl) <|
  Chain.cons (stepAt_unary 2308 _ _ _ rfl (by decide)) <|
  Chain.cons (stepAt_binary 2309 _ _ _ _ rfl (by decide) (by decide)) <|
  Chain.cons (stepAt_nullary 2310 _ _ rfl) <|
  Chain.cons (stepAt_unary 2311 _ _ _ rfl (by decide)) <|
  Chain.cons (stepAt_binary 2312 _ _ _ _ rfl (by decide) (by decide)) <|
  Chain.cons (stepAt_ternary 2313 _ _ _ _ _ rfl (by decide) (by decide) (by decide)) <|
  Chain.cons (stepAt_unary 2314 _ _ _ rfl (by decide)) <|
  Chain.cons (stepAt_binary 2315 _ _ _ _ rfl (by decide) (by decide)) <|
  Chain.cons (stepAt_unary 2316 _ _ _ rfl (by decide)) <|
  Chain.cons (stepAt_reshape 2317 _ _ _ _ rfl (by decide)) <|
  Chain.cons (stepAt_nullary 2318 _ _ rfl) <|
  Chain.cons (stepAt_unary 2319 _ _ _ rfl (by decide)) <|
  Chain.cons (stepAt_binary 2320 _ _ _ _ rfl (by decide) (by decide)) <|
  Chain.cons (stepAt_nullary 2321 _ _ rfl) <|
  Chain.cons (stepAt_unary 2322 _ _ _ rfl (by decide)) <|
  Chain.cons (stepAt_binary 2323 _ _ _ _ rfl (by decide) (by decide)) <|
  Chain.cons (stepAt_nullary 2324 _ _ rfl) <|
  Chain.cons (stepAt_unary 2325 _ _ _ rfl (by decide)) <|
  Chain.cons (stepAt_binary 2326 _ _ _ _ rfl (by decide) (by decide)) <|
  Chain.cons (stepAt_unary 2327 _ _ _ rfl (by decide)) <|
  Chain.cons (stepAt_reshape 2328 _ _ _ _ rfl (by decide)) <|
  Chain.cons (stepAt_nullary 2329 _ _ rfl) <|
  Chain.cons (stepAt_unary 2330 _ _ _ rfl (by decide)) <|
  Chain.cons (stepAt_binary 2331 _ _ _ _ rfl (by decide) (by decide)) <|
  Chain.cons (stepAt_nullary 2332 _ _ rfl) <|
  Chain.cons (stepAt_unary 2333 _ _ _ rfl (by decide)) <|
  Chain.cons (stepAt_binary 2334 _ _ _ _ rfl (by decide) (by decide)) <|
  Chain.cons (stepAt_nullary 2335 _ _ rfl) <|
  Chain.cons (stepAt_unary 2336 _ _ _ rfl (by decide)) <|
  Chain.cons (stepAt_binary 2337 _ _ _ _ rfl (by decide) (by decide)) <|
  Chain.cons (stepAt_unary 2338 _ _ _ rfl (by decide)) <|
  Chain.cons (stepAt_unary 2339 _ _ _ rfl (by decide)) <|
  Chain.cons (stepAt_binary 2340 _ _ _ _ rfl (by decide) (by decide)) <|
  Chain.cons (stepAt_binary 2341 _ _ _ _ rfl (by decide) (by decide)) <|
  Chain.cons (stepAt_unary 2342 _ _ _ rfl (by decide)) <|
  Chain.cons (stepAt_nullary 2343 _ _ rfl) <|
  Chain.cons (stepAt_nullary 2344 _ _ rfl) <|
  Chain.nil
theorem hostOps0_96_length : (hostOps0_96 : List (HloOp τ sig (Elt F))).length = 150 := rfl

set_option maxHeartbeats 4000000 in
/-- Operations 2317 … 2322 of the program, writing buffers 2345 … 2350. -/
theorem hostOps0_97_chain : Chain 2345 (hostOps0_97 : List (HloOp τ sig (Elt F))) :=
  Chain.cons (stepAt_unary 2345 _ _ _ rfl (by decide)) <|
  Chain.cons (stepAt_unary 2346 _ _ _ rfl (by decide)) <|
  Chain.cons (stepAt_binary 2347 _ _ _ _ rfl (by decide) (by decide)) <|
  Chain.cons (stepAt_unary 2348 _ _ _ rfl (by decide)) <|
  Chain.cons (stepAt_unary 2349 _ _ _ rfl (by decide)) <|
  Chain.cons (stepAt_binary 2350 _ _ _ _ rfl (by decide) (by decide)) <|
  Chain.nil
theorem hostOps0_97_length : (hostOps0_97 : List (HloOp τ sig (Elt F))).length = 6 := rfl

set_option maxHeartbeats 4000000 in
/-- Operations 2323 … 2327 of the program, writing buffers 2351 … 2355. -/
theorem hostOps0_98_chain : Chain 2351 (hostOps0_98 : List (HloOp τ sig (Elt F))) :=
  Chain.cons (stepAt_nullary 2351 _ _ rfl) <|
  Chain.cons (stepAt_unary 2352 _ _ _ rfl (by decide)) <|
  Chain.cons (stepAt_binary 2353 _ _ _ _ rfl (by decide) (by decide)) <|
  Chain.cons (stepAt_nullary 2354 _ _ rfl) <|
  Chain.cons (stepAt_nullary 2355 _ _ rfl) <|
  Chain.nil
theorem hostOps0_98_length : (hostOps0_98 : List (HloOp τ sig (Elt F))).length = 5 := rfl

set_option maxHeartbeats 4000000 in
/-- Operations 2328 … 2333 of the program, writing buffers 2356 … 2361. -/
theorem hostOps0_99_chain : Chain 2356 (hostOps0_99 : List (HloOp τ sig (Elt F))) :=
  Chain.cons (stepAt_unary 2356 _ _ _ rfl (by decide)) <|
  Chain.cons (stepAt_unary 2357 _ _ _ rfl (by decide)) <|
  Chain.cons (stepAt_binary 2358 _ _ _ _ rfl (by decide) (by decide)) <|
  Chain.cons (stepAt_unary 2359 _ _ _ rfl (by decide)) <|
  Chain.cons (stepAt_unary 2360 _ _ _ rfl (by decide)) <|
  Chain.cons (stepAt_binary 2361 _ _ _ _ rfl (by decide) (by decide)) <|
  Chain.nil
theorem hostOps0_99_length : (hostOps0_99 : List (HloOp τ sig (Elt F))).length = 6 := rfl

set_option maxHeartbeats 4000000 in
/-- Operations 2334 … 2336 of the program, writing buffers 2362 … 2364. -/
theorem hostOps0_100_chain : Chain 2362 (hostOps0_100 : List (HloOp τ sig (Elt F))) :=
  Chain.cons (stepAt_unary 2362 _ _ _ rfl (by decide)) <|
  Chain.cons (stepAt_nullary 2363 _ _ rfl) <|
  Chain.cons (stepAt_nullary 2364 _ _ rfl) <|
  Chain.nil
theorem hostOps0_100_length : (hostOps0_100 : List (HloOp τ sig (Elt F))).length = 3 := rfl

set_option maxHeartbeats 4000000 in
/-- Operations 2337 … 2342 of the program, writing buffers 2365 … 2370. -/
theorem hostOps0_101_chain : Chain 2365 (hostOps0_101 : List (HloOp τ sig (Elt F))) :=
  Chain.cons (stepAt_unary 2365 _ _ _ rfl (by decide)) <|
  Chain.cons (stepAt_unary 2366 _ _ _ rfl (by decide)) <|
  Chain.cons (stepAt_binary 2367 _ _ _ _ rfl (by decide) (by decide)) <|
  Chain.cons (stepAt_unary 2368 _ _ _ rfl (by decide)) <|
  Chain.cons (stepAt_unary 2369 _ _ _ rfl (by decide)) <|
  Chain.cons (stepAt_binary 2370 _ _ _ _ rfl (by decide) (by decide)) <|
  Chain.nil
theorem hostOps0_101_length : (hostOps0_101 : List (HloOp τ sig (Elt F))).length = 6 := rfl

set_option maxHeartbeats 4000000 in
/-- Operations 2343 … 2347 of the program, writing buffers 2371 … 2375. -/
theorem hostOps0_102_chain : Chain 2371 (hostOps0_102 : List (HloOp τ sig (Elt F))) :=
  Chain.cons (stepAt_nullary 2371 _ _ rfl) <|
  Chain.cons (stepAt_unary 2372 _ _ _ rfl (by decide)) <|
  Chain.cons (stepAt_binary 2373 _ _ _ _ rfl (by decide) (by decide)) <|
  Chain.cons (stepAt_nullary 2374 _ _ rfl) <|
  Chain.cons (stepAt_nullary 2375 _ _ rfl) <|
  Chain.nil
theorem hostOps0_102_length : (hostOps0_102 : List (HloOp τ sig (Elt F))).length = 5 := rfl

set_option maxHeartbeats 4000000 in
/-- Operations 2348 … 2353 of the program, writing buffers 2376 … 2381. -/
theorem hostOps0_103_chain : Chain 2376 (hostOps0_103 : List (HloOp τ sig (Elt F))) :=
  Chain.cons (stepAt_unary 2376 _ _ _ rfl (by decide)) <|
  Chain.cons (stepAt_unary 2377 _ _ _ rfl (by decide)) <|
  Chain.cons (stepAt_binary 2378 _ _ _ _ rfl (by decide) (by decide)) <|
  Chain.cons (stepAt_unary 2379 _ _ _ rfl (by decide)) <|
  Chain.cons (stepAt_unary 2380 _ _ _ rfl (by decide)) <|
  Chain.cons (stepAt_binary 2381 _ _ _ _ rfl (by decide) (by decide)) <|
  Chain.nil
theorem hostOps0_103_length : (hostOps0_103 : List (HloOp τ sig (Elt F))).length = 6 := rfl

set_option maxHeartbeats 4000000 in
/-- Operations 2354 … 2503 of the program, writing buffers 2382 … 2531. -/
theorem hostOps0_104_chain : Chain 2382 (hostOps0_104 : List (HloOp τ sig (Elt F))) :=
  Chain.cons (stepAt_nullary 2382 _ _ rfl) <|
  Chain.cons (stepAt_unary 2383 _ _ _ rfl (by decide)) <|
  Chain.cons (stepAt_binary 2384 _ _ _ _ rfl (by decide) (by decide)) <|
  Chain.cons (stepAt_nullary 2385 _ _ rfl) <|
  Chain.cons (stepAt_unary 2386 _ _ _ rfl (by decide)) <|
  Chain.cons (stepAt_binary 2387 _ _ _ _ rfl (by decide) (by decide)) <|
  Chain.cons (stepAt_ternary 2388 _ _ _ _ _ rfl (by decide) (by decide) (by decide)) <|
  Chain.cons (stepAt_nullary 2389 _ _ rfl) <|
  Chain.cons (stepAt_unary 2390 _ _ _ rfl (by decide)) <|
  Chain.cons (stepAt_binary 2391 _ _ _ _ rfl (by decide) (by decide)) <|
  Chain.cons (stepAt_nullary 2392 _ _ rfl) <|
  Chain.cons (stepAt_unary 2393 _ _ _ rfl (by decide)) <|
  Chain.cons (stepAt_binary 2394 _ _ _ _ rfl (by decide) (by decide)) <|
  Chain.cons (stepAt_ternary 2395 _ _ _ _ _ rfl (by decide) (by decide) (by decide)) <|
  Chain.cons (stepAt_unary 2396 _ _ _ rfl (by decide)) <|
  Chain.cons (stepAt_unary 2397 _ _ _ rfl (by decide)) <|
  Chain.cons (stepAt_binary 2398 _ _ _ _ rfl (by decide) (by decide)) <|
  Chain.cons (stepAt_binary 2399 _ _ _ _ rfl (by decide) (by decide)) <|
  Chain.cons (stepAt_nullary 2400 _ _ rfl) <|
  Chain.cons (stepAt_unary 2401 _ _ _ rfl (by decide)) <|
  Chain.cons (stepAt_binary 2402 _ _ _ _ rfl (by decide) (by decide)) <|
  Chain.cons (stepAt_nullary 2403 _ _ rfl) <|
  Chain.cons (stepAt_unary 2404 _ _ _ rfl (by decide)) <|
  Chain.cons (stepAt_binary 2405 _ _ _ _ rfl (by decide) (by decide)) <|
  Chain.cons (stepAt_ternary 2406 _ _ _ _ _ rfl (by decide) (by decide) (by decide)) <|
  Chain.cons (stepAt_nullary 2407 _ _ rfl) <|
  Chain.cons (stepAt_unary 2408 _ _ _ rfl (by decide)) <|
  Chain.cons (stepAt_binary 2409 _ _ _ _ rfl (by decide) (by decide)) <|
  Chain.cons (stepAt_nullary 2410 _ _ rfl) <|
  Chain.cons (stepAt_unary 2411 _ _ _ rfl (by decide)) <|
  Chain.cons (stepAt_binary 2412 _ _ _ _ rfl (by decide) (by decide)) <|
  Chain.cons (stepAt_ternary 2413 _ _ _ _ _ rfl (by decide) (by decide) (by decide)) <|
  Chain.cons (stepAt_unary 2414 _ _ _ rfl (by decide)) <|
  Chain.cons (stepAt_unary 2415 _ _ _ rfl (by decide)) <|
  Chain.cons (stepAt_binary 2416 _ _ _ _ rfl (by decide) (by decide)) <|
  Chain.cons (stepAt_binary 2417 _ _ _ _ rfl (by decide) (by decide)) <|
  Chain.cons (stepAt_nullary 2418 _ _ rfl) <|
  Chain.cons (stepAt_unary 2419 _ _ _ rfl (by decide)) <|
  Chain.cons (stepAt_binary 2420 _ _ _ _ rfl (by decide) (by decide)) <|
  Chain.cons (stepAt_nullary 2421 _ _ rfl) <|
  Chain.cons (stepAt_unary 2422 _ _ _ rfl (by decide)) <|
  Chain.cons (stepAt_binary 2423 _ _ _ _ rfl (by decide) (by decide)) <|
  Chain.cons (stepAt_ternary 2424 _ _ _ _ _ rfl (by decide) (by decide) (by decide)) <|
  Chain.cons (stepAt_nullary 2425 _ _ rfl) <|
  Chain.cons (stepAt_unary 2426 _ _ _ rfl (by decide)) <|
  Chain.cons (stepAt_binary 2427 _ _ _ _ rfl (by decide) (by decide)) <|
  Chain.cons (stepAt_nullary 2428 _ _ rfl) <|
  Chain.cons (stepAt_unary 2429 _ _ _ rfl (by decide)) <|
  Chain.cons (stepAt_binary 2430 _ _ _ _ rfl (by decide) (by decide)) <|
  Chain.cons (stepAt_ternary 2431 _ _ _ _ _ rfl (by decide) (by decide) (by decide)) <|
  Chain.cons (stepAt_unary 2432 _ _ _ rfl (by decide)) <|
  Chain.cons (stepAt_unary 2433 _ _ _ rfl (by decide)) <|
  Chain.cons (stepAt_binary 2434 _ _ _ _ rfl (by decide) (by decide)) <|
  Chain.cons (stepAt_binary 2435 _ _ _ _ rfl (by decide) (by decide)) <|
  Chain.cons (stepAt_nullary 2436 _ _ rfl) <|
  Chain.cons (stepAt_unary 2437 _ _ _ rfl (by decide)) <|
  Chain.cons (stepAt_binary 2438 _ _ _ _ rfl (by decide) (by decide)) <|
  Chain.cons (stepAt_nullary 2439 _ _ rfl) <|
  Chain.cons (stepAt_unary 2440 _ _ _ rfl (by decide)) <|
  Chain.cons (stepAt_binary 2441 _ _ _ _ rfl (by decide) (by decide)) <|
  Chain.cons (stepAt_ternary 2442 _ _ _ _ _ rfl (by decide) (by decide) (by decide)) <|
  Chain.cons (stepAt_nullary 2443 _ _ rfl) <|
  Chain.cons (stepAt_unary 2444 _ _ _ rfl (by decide)) <|
  Chain.cons (stepAt_binary 2445 _ _ _ _ rfl (by decide) (by decide)) <|
  Chain.cons (stepAt_nullary 2446 _ _ rfl) <|
  Chain.cons (stepAt_unary 2447 _ _ _ rfl (by decide)) <|
  Chain.cons (stepAt_binary 2448 _ _ _ _ rfl (by decide) (by decide)) <|
  Chain.cons (stepAt_ternary 2449 _ _ _ _ _ rfl (by decide) (by decide) (by decide)) <|
  Chain.cons (stepAt_unary 2450 _ _ _ rfl (by decide)) <|
  Chain.cons (stepAt_unary 2451 _ _ _ rfl (by decide)) <|
  Chain.cons (stepAt_binary 2452 _ _ _ _ rfl (by decide) (by decide)) <|
  Chain.cons (stepAt_binary 2453 _ _ _ _ rfl (by decide) (by decide)) <|
  Chain.cons (stepAt_nullary 2454 _ _ rfl) <|
  Chain.cons (stepAt_unary 2455 _ _ _ rfl (by decide)) <|
  Chain.cons (stepAt_binary 2456 _ _ _ _ rfl (by decide) (by decide)) <|
  Chain.cons (stepAt_unary 2457 _ _ _ rfl (by decide)) <|
  Chain.cons (stepAt_unary 2458 _ _ _ rfl (by decide)) <|
  Chain.cons (stepAt_binary 2459 _ _ _ _ rfl (by decide) (by decide)) <|
  Chain.cons (stepAt_nullary 2460 _ _ rfl) <|
  Chain.cons (stepAt_unary 2461 _ _ _ rfl (by decide)) <|
  Chain.cons (stepAt_binary 2462 _ _ _ _ rfl (by decide) (by decide)) <|
  Chain.cons (stepAt_unary 2463 _ _ _ rfl (by decide)) <|
  Chain.cons (stepAt_unary 2464 _ _ _ rfl (by decide)) <|
  Chain.cons (stepAt_binary 2465 _ _ _ _ rfl (by decide) (by decide)) <|
  Chain.cons (stepAt_unary 2466 _ _ _ rfl (by decide)) <|
  Chain.cons (stepAt_unary 2467 _ _ _ rfl (by decide)) <|
  Chain.cons (stepAt_binary 2468 _ _ _ _ rfl (by decide) (by decide)) <|
  Chain.cons (stepAt_nullary 2469 _ _ rfl) <|
  Chain.cons (stepAt_unary 2470 _ _ _ rfl (by decide)) <|
  Chain.cons (stepAt_binary 2471 _ _ _ _ rfl (by decide) (by decide)) <|
  Chain.cons (stepAt_unary 2472 _ _ _ rfl (by decide)) <|
  Chain.cons (stepAt_unary 2473 _ _ _ rfl (by decide)) <|
  Chain.cons (stepAt_binary 2474 _ _ _ _ rfl (by decide) (by decide)) <|
  Chain.cons (stepAt_binary 2475 _ _ _ _ rfl (by decide) (by decide)) <|
  Chain.cons (stepAt_nullary 2476 _ _ rfl) <|
  Chain.cons (stepAt_unary 2477 _ _ _ rfl (by decide)) <|
  Chain.cons (stepAt_binary 2478 _ _ _ _ rfl (by decide) (by decide)) <|
  Chain.cons (stepAt_unary 2479 _ _ _ rfl (by decide)) <|
  Chain.cons (stepAt_unary 2480 _ _ _ rfl (by decide)) <|
  Chain.cons (stepAt_binary 2481 _ _ _ _ rfl (by decide) (by decide)) <|
  Chain.cons (stepAt_unary 2482 _ _ _ rfl (by decide)) <|
  Chain.cons (stepAt_unary 2483 _ _ _ rfl (by decide)) <|
  Chain.cons (stepAt_binary 2484 _ _ _ _ rfl (by decide) (by decide)) <|
  Chain.cons (stepAt_binary 2485 _ _ _ _ rfl (by decide) (by decide)) <|
  Chain.cons (stepAt_unary 2486 _ _ _ rfl (by decide)) <|
  Chain.cons (stepAt_unary 2487 _ _ _ rfl (by decide)) <|
  Chain.cons (stepAt_binary 2488 _ _ _ _ rfl (by decide) (by decide)) <|
  Chain.cons (stepAt_unary 2489 _ _ _ rfl (by decide)) <|
  Chain.cons (stepAt_unary 2490 _ _ _ rfl (by decide)) <|
  Chain.cons (stepAt_binary 2491 _ _ _ _ rfl (by decide) (by decide)) <|
  Chain.cons (stepAt_binary 2492 _ _ _ _ rfl (by decide) (by decide)) <|
  Chain.cons (stepAt_unary 2493 _ _ _ rfl (by decide)) <|
  Chain.cons (stepAt_nullary 2494 _ _ rfl) <|
  Chain.cons (stepAt_unary 2495 _ _ _ rfl (by decide)) <|
  Chain.cons (stepAt_binary 2496 _ _ _ _ rfl (by decide) (by decide)) <|
  Chain.cons (stepAt_nullary 2497 _ _ rfl) <|
  Chain.cons (stepAt_unary 2498 _ _ _ rfl (by decide)) <|
  Chain.cons (stepAt_binary 2499 _ _ _ _ rfl (by decide) (by decide)) <|
  Chain.cons (stepAt_ternary 2500 _ _ _ _ _ rfl (by decide) (by decide) (by decide)) <|
  Chain.cons (stepAt_unary 2501 _ _ _ rfl (by decide)) <|
  Chain.cons (stepAt_binary 2502 _ _ _ _ rfl (by decide) (by decide)) <|
  Chain.cons (stepAt_unary 2503 _ _ _ rfl (by decide)) <|
  Chain.cons (stepAt_reshape 2504 _ _ _ _ rfl (by decide)) <|
  Chain.cons (stepAt_nullary 2505 _ _ rfl) <|
  Chain.cons (stepAt_unary 2506 _ _ _ rfl (by decide)) <|
  Chain.cons (stepAt_binary 2507 _ _ _ _ rfl (by decide) (by decide)) <|
  Chain.cons (stepAt_nullary 2508 _ _ rfl) <|
  Chain.cons (stepAt_unary 2509 _ _ _ rfl (by decide)) <|
  Chain.cons (stepAt_binary 2510 _ _ _ _ rfl (by decide) (by decide)) <|
  Chain.cons (stepAt_nullary 2511 _ _ rfl) <|
  Chain.cons (stepAt_unary 2512 _ _ _ rfl (by decide)) <|
  Chain.cons (stepAt_binary 2513 _ _ _ _ rfl (by decide) (by decide)) <|
  Chain.cons (stepAt_unary 2514 _ _ _ rfl (by decide)) <|
  Chain.cons (stepAt_reshape 2515 _ _ _ _ rfl (by decide)) <|
  Chain.cons (stepAt_nullary 2516 _ _ rfl) <|
  Chain.cons (stepAt_unary 2517 _ _ _ rfl (by decide)) <|
  Chain.cons (stepAt_binary 2518 _ _ _ _ rfl (by decide) (by decide)) <|
  Chain.cons (stepAt_nullary 2519 _ _ rfl) <|
  Chain.cons (stepAt_unary 2520 _ _ _ rfl (by decide)) <|
  Chain.cons (stepAt_binary 2521 _ _ _ _ rfl (by decide) (by decide)) <|
  Chain.cons (stepAt_nullary 2522 _ _ rfl) <|
  Chain.cons (stepAt_unary 2523 _ _ _ rfl (by decide)) <|
  Chain.cons (stepAt_binary 2524 _ _ _ _ rfl (by decide) (by decide)) <|
  Chain.cons (stepAt_unary 2525 _ _ _ rfl (by decide)) <|
  Chain.cons (stepAt_unary 2526 _ _ _ rfl (by decide)) <|
  Chain.cons (stepAt_binary 2527 _ _ _ _ rfl (by decide) (by decide)) <|
  Chain.cons (stepAt_binary 2528 _ _ _ _ rfl (by decide) (by decide)) <|
  Chain.cons (stepAt_unary 2529 _ _ _ rfl (by decide)) <|
  Chain.cons (stepAt_nullary 2530 _ _ rfl) <|
  Chain.cons (stepAt_nullary 2531 _ _ rfl) <|
  Chain.nil
theorem hostOps0_104_length : (hostOps0_104 : List (HloOp τ sig (Elt F))).length = 150 := rfl

set_option maxHeartbeats 4000000 in
/-- Operations 2504 … 2509 of the program, writing buffers 2532 … 2537. -/
theorem hostOps0_105_chain : Chain 2532 (hostOps0_105 : List (HloOp τ sig (Elt F))) :=
  Chain.cons (stepAt_unary 2532 _ _ _ rfl (by decide)) <|
  Chain.cons (stepAt_unary 2533 _ _ _ rfl (by decide)) <|
  Chain.cons (stepAt_binary 2534 _ _ _ _ rfl (by decide) (by decide)) <|
  Chain.cons (stepAt_unary 2535 _ _ _ rfl (by decide)) <|
  Chain.cons (stepAt_unary 2536 _ _ _ rfl (by decide)) <|
  Chain.cons (stepAt_binary 2537 _ _ _ _ rfl (by decide) (by decide)) <|
  Chain.nil
theorem hostOps0_105_length : (hostOps0_105 : List (HloOp τ sig (Elt F))).length = 6 := rfl

set_option maxHeartbeats 4000000 in
/-- Operations 2510 … 2514 of the program, writing buffers 2538 … 2542. -/
theorem hostOps0_106_chain : Chain 2538 (hostOps0_106 : List (HloOp τ sig (Elt F))) :=
  Chain.cons (stepAt_nullary 2538 _ _ rfl) <|
  Chain.cons (stepAt_unary 2539 _ _ _ rfl (by decide)) <|
  Chain.cons (stepAt_binary 2540 _ _ _ _ rfl (by decide) (by decide)) <|
  Chain.cons (stepAt_nullary 2541 _ _ rfl) <|
  Chain.cons (stepAt_nullary 2542 _ _ rfl) <|
  Chain.nil
theorem hostOps0_106_length : (hostOps0_106 : List (HloOp τ sig (Elt F))).length = 5 := rfl

set_option maxHeartbeats 4000000 in
/-- Operations 2515 … 2520 of the program, writing buffers 2543 … 2548. -/
theorem hostOps0_107_chain : Chain 2543 (hostOps0_107 : List (HloOp τ sig (Elt F))) :=
  Chain.cons (stepAt_unary 2543 _ _ _ rfl (by decide)) <|
  Chain.cons (stepAt_unary 2544 _ _ _ rfl (by decide)) <|
  Chain.cons (stepAt_binary 2545 _ _ _ _ rfl (by decide) (by decide)) <|
  Chain.cons (stepAt_unary 2546 _ _ _ rfl (by decide)) <|
  Chain.cons (stepAt_unary 2547 _ _ _ rfl (by decide)) <|
  Chain.cons (stepAt_binary 2548 _ _ _ _ rfl (by decide) (by decide)) <|
  Chain.nil
theorem hostOps0_107_length : (hostOps0_107 : List (HloOp τ sig (Elt F))).length = 6 := rfl

set_option maxHeartbeats 4000000 in
/-- Operations 2521 … 2523 of the program, writing buffers 2549 … 2551. -/
theorem hostOps0_108_chain : Chain 2549 (hostOps0_108 : List (HloOp τ sig (Elt F))) :=
  Chain.cons (stepAt_unary 2549 _ _ _ rfl (by decide)) <|
  Chain.cons (stepAt_nullary 2550 _ _ rfl) <|
  Chain.cons (stepAt_nullary 2551 _ _ rfl) <|
  Chain.nil
theorem hostOps0_108_length : (hostOps0_108 : List (HloOp τ sig (Elt F))).length = 3 := rfl

set_option maxHeartbeats 4000000 in
/-- Operations 2524 … 2529 of the program, writing buffers 2552 … 2557. -/
theorem hostOps0_109_chain : Chain 2552 (hostOps0_109 : List (HloOp τ sig (Elt F))) :=
  Chain.cons (stepAt_unary 2552 _ _ _ rfl (by decide)) <|
  Chain.cons (stepAt_unary 2553 _ _ _ rfl (by decide)) <|
  Chain.cons (stepAt_binary 2554 _ _ _ _ rfl (by decide) (by decide)) <|
  Chain.cons (stepAt_unary 2555 _ _ _ rfl (by decide)) <|
  Chain.cons (stepAt_unary 2556 _ _ _ rfl (by decide)) <|
  Chain.cons (stepAt_binary 2557 _ _ _ _ rfl (by decide) (by decide)) <|
  Chain.nil
theorem hostOps0_109_length : (hostOps0_109 : List (HloOp τ sig (Elt F))).length = 6 := rfl

set_option maxHeartbeats 4000000 in
/-- Operations 2530 … 2534 of the program, writing buffers 2558 … 2562. -/
theorem hostOps0_110_chain : Chain 2558 (hostOps0_110 : List (HloOp τ sig (Elt F))) :=
  Chain.cons (stepAt_nullary 2558 _ _ rfl) <|
  Chain.cons (stepAt_unary 2559 _ _ _ rfl (by decide)) <|
  Chain.cons (stepAt_binary 2560 _ _ _ _ rfl (by decide) (by decide)) <|
  Chain.cons (stepAt_nullary 2561 _ _ rfl) <|
  Chain.cons (stepAt_nullary 2562 _ _ rfl) <|
  Chain.nil
theorem hostOps0_110_length : (hostOps0_110 : List (HloOp τ sig (Elt F))).length = 5 := rfl

set_option maxHeartbeats 4000000 in
/-- Operations 2535 … 2540 of the program, writing buffers 2563 … 2568. -/
theorem hostOps0_111_chain : Chain 2563 (hostOps0_111 : List (HloOp τ sig (Elt F))) :=
  Chain.cons (stepAt_unary 2563 _ _ _ rfl (by decide)) <|
  Chain.cons (stepAt_unary 2564 _ _ _ rfl (by decide)) <|
  Chain.cons (stepAt_binary 2565 _ _ _ _ rfl (by decide) (by decide)) <|
  Chain.cons (stepAt_unary 2566 _ _ _ rfl (by decide)) <|
  Chain.cons (stepAt_unary 2567 _ _ _ rfl (by decide)) <|
  Chain.cons (stepAt_binary 2568 _ _ _ _ rfl (by decide) (by decide)) <|
  Chain.nil
theorem hostOps0_111_length : (hostOps0_111 : List (HloOp τ sig (Elt F))).length = 6 := rfl

set_option maxHeartbeats 4000000 in
/-- Operations 2541 … 2690 of the program, writing buffers 2569 … 2718. -/
theorem hostOps0_112_chain : Chain 2569 (hostOps0_112 : List (HloOp τ sig (Elt F))) :=
  Chain.cons (stepAt_nullary 2569 _ _ rfl) <|
  Chain.cons (stepAt_unary 2570 _ _ _ rfl (by decide)) <|
  Chain.cons (stepAt_binary 2571 _ _ _ _ rfl (by decide) (by decide)) <|
  Chain.cons (stepAt_nullary 2572 _ _ rfl) <|
  Chain.cons (stepAt_unary 2573 _ _ _ rfl (by decide)) <|
  Chain.cons (stepAt_binary 2574 _ _ _ _ rfl (by decide) (by decide)) <|
  Chain.cons (stepAt_ternary 2575 _ _ _ _ _ rfl (by decide) (by decide) (by decide)) <|
  Chain.cons (stepAt_nullary 2576 _ _ rfl) <|
  Chain.cons (stepAt_unary 2577 _ _ _ rfl (by decide)) <|
  Chain.cons (stepAt_binary 2578 _ _ _ _ rfl (by decide) (by decide)) <|
  Chain.cons (stepAt_nullary 2579 _ _ rfl) <|
  Chain.cons (stepAt_unary 2580 _ _ _ rfl (by decide)) <|
  Chain.cons (stepAt_binary 2581 _ _ _ _ rfl (by decide) (by decide)) <|
  Chain.cons (stepAt_ternary 2582 _ _ _ _ _ rfl (by decide) (by decide) (by decide)) <|
  Chain.cons (stepAt_unary 2583 _ _ _ rfl (by decide)) <|
  Chain.cons (stepAt_unary 2584 _ _ _ rfl (by decide)) <|
  Chain.cons (stepAt_binary 2585 _ _ _ _ rfl (by decide) (by decide)) <|
  Chain.cons (stepAt_binary 2586 _ _ _ _ rfl (by decide) (by decide)) <|
  Chain.cons (stepAt_nullary 2587 _ _ rfl) <|
  Chain.cons (stepAt_unary 2588 _ _ _ rfl (by decide)) <|
  Chain.cons (stepAt_binary 2589 _ _ _ _ rfl (by decide) (by decide)) <|
  Chain.cons (stepAt_nullary 2590 _ _ rfl) <|
  Chain.cons (stepAt_unary 2591 _ _ _ rfl (by decide)) <|
  Chain.cons (stepAt_binary 2592 _ _ _ _ rfl (by decide) (by decide)) <|
  Chain.cons (stepAt_ternary 2593 _ _ _ _ _ rfl (by decide) (by decide) (by decide)) <|
  Chain.cons (stepAt_nullary 2594 _ _ rfl) <|
  Chain.cons (stepAt_unary 2595 _ _ _ rfl (by decide)) <|
  Chain.cons (stepAt_binary 2596 _ _ _ _ rfl (by decide) (by decide)) <|
  Chain.cons (stepAt_nullary 2597 _ _ rfl) <|
  Chain.cons (stepAt_unary 2598 _ _ _ rfl (by decide)) <|
  Chain.cons (stepAt_binary 2599 _ _ _ _ rfl (by decide) (by decide)) <|
  Chain.cons (stepAt_ternary 2600 _ _ _ _ _ rfl (by decide) (by decide) (by decide)) <|
  Chain.cons (stepAt_unary 2601 _ _ _ rfl (by decide)) <|
  Chain.cons (stepAt_unary 2602 _ _ _ rfl (by decide)) <|
  Chain.cons (stepAt_binary 2603 _ _ _ _ rfl (by decide) (by decide)) <|
  Chain.cons (stepAt_binary 2604 _ _ _ _ rfl (by decide) (by decide)) <|
  Chain.cons (stepAt_nullary 2605 _ _ rfl) <|
  Chain.cons (stepAt_unary 2606 _ _ _ rfl (by decide)) <|
  Chain.cons (stepAt_binary 2607 _ _ _ _ rfl (by decide) (by decide)) <|
  Chain.cons (stepAt_nullary 2608 _ _ rfl) <|
  Chain.cons (stepAt_unary 2609 _ _ _ rfl (by decide)) <|
  Chain.cons (stepAt_binary 2610 _ _ _ _ rfl (by decide) (by decide)) <|
  Chain.cons (stepAt_ternary 2611 _ _ _ _ _ rfl (by decide) (by decide) (by decide)) <|
  Chain.cons (stepAt_nullary 2612 _ _ rfl) <|
  Chain.cons (stepAt_unary 2613 _ _ _ rfl (by decide)) <|
  Chain.cons (stepAt_binary 2614 _ _ _ _ rfl (by decide) (by decide)) <|
  Chain.cons (stepAt_nullary 2615 _ _ rfl) <|
  Chain.cons (stepAt_unary 2616 _ _ _ rfl (by decide)) <|
  Chain.cons (stepAt_binary 2617 _ _ _ _ rfl (by decide) (by decide)) <|
  Chain.cons (stepAt_ternary 2618 _ _ _ _ _ rfl (by decide) (by decide) (by decide)) <|
  Chain.cons (stepAt_unary 2619 _ _ _ rfl (by decide)) <|
  Chain.cons (stepAt_unary 2620 _ _ _ rfl (by decide)) <|
  Chain.cons (stepAt_binary 2621 _ _ _ _ rfl (by decide) (by decide)) <|
  Chain.cons (stepAt_binary 2622 _ _ _ _ rfl (by decide) (by decide)) <|
  Chain.cons (stepAt_nullary 2623 _ _ rfl) <|
  Chain.cons (stepAt_unary 2624 _ _ _ rfl (by decide)) <|
  Chain.cons (stepAt_binary 2625 _ _ _ _ rfl (by decide) (by decide)) <|
  Chain.cons (stepAt_nullary 2626 _ _ rfl) <|
  Chain.cons (stepAt_unary 2627 _ _ _ rfl (by decide)) <|
  Chain.cons (stepAt_binary 2628 _ _ _ _ rfl (by decide) (by decide)) <|
  Chain.cons (stepAt_ternary 2629 _ _ _ _ _ rfl (by decide) (by decide) (by decide)) <|
  Chain.cons (stepAt_nullary 2630 _ _ rfl) <|
  Chain.cons (stepAt_unary 2631 _ _ _ rfl (by decide)) <|
  Chain.cons (stepAt_binary 2632 _ _ _ _ rfl (by decide) (by decide)) <|
  Chain.cons (stepAt_nullary 2633 _ _ rfl) <|
  Chain.cons (stepAt_unary 2634 _ _ _ rfl (by decide)) <|
  Chain.cons (stepAt_binary 2635 _ _ _ _ rfl (by decide) (by decide)) <|
  Chain.cons (stepAt_ternary 2636 _ _ _ _ _ rfl (by decide) (by decide) (by decide)) <|
  Chain.cons (stepAt_unary 2637 _ _ _ rfl (by decide)) <|
  Chain.cons (stepAt_unary 2638 _ _ _ rfl (by decide)) <|
  Chain.cons (stepAt_binary 2639 _ _ _ _ rfl (by decide) (by decide)) <|
  Chain.cons (stepAt_binary 2640 _ _ _ _ rfl (by decide) (by decide)) <|
  Chain.cons (stepAt_nullary 2641 _ _ rfl) <|
  Chain.cons (stepAt_unary 2642 _ _ _ rfl (by decide)) <|
  Chain.cons (stepAt_binary 2643 _ _ _ _ rfl (by decide) (by decide)) <|
  Chain.cons (stepAt_unary 2644 _ _ _ rfl (by decide)) <|
  Chain.cons (stepAt_unary 2645 _ _ _ rfl (by decide)) <|
  Chain.cons (stepAt_binary 2646 _ _ _ _ rfl (by decide) (by decide)) <|
  Chain.cons (stepAt_nullary 2647 _ _ rfl) <|
  Chain.cons (stepAt_unary 2648 _ _ _ rfl (by decide)) <|
  Chain.cons (stepAt_binary 2649 _ _ _ _ rfl (by decide) (by decide)) <|
  Chain.cons (stepAt_unary 2650 _ _ _ rfl (by decide)) <|
  Chain.cons (stepAt_unary 2651 _ _ _ rfl (by decide)) <|
  Chain.cons (stepAt_binary 2652 _ _ _ _ rfl (by decide) (by decide)) <|
  Chain.cons (stepAt_unary 2653 _ _ _ rfl (by decide)) <|
  Chain.cons (stepAt_unary 2654 _ _ _ rfl (by decide)) <|
  Chain.cons (stepAt_binary 2655 _ _ _ _ rfl (by decide) (by decide)) <|
  Chain.cons (stepAt_nullary 2656 _ _ rfl) <|
  Chain.cons (stepAt_unary 2657 _ _ _ rfl (by decide)) <|
  Chain.cons (stepAt_binary 2658 _ _ _ _ rfl (by decide) (by decide)) <|
  Chain.cons (stepAt_unary 2659 _ _ _ rfl (by decide)) <|
  Chain.cons (stepAt_unary 2660 _ _ _ rfl (by decide)) <|
  Chain.cons (stepAt_binary 2661 _ _ _ _ rfl (by decide) (by decide)) <|
  Chain.cons (stepAt_binary 2662 _ _ _ _ rfl (by decide) (by decide)) <|
  Chain.cons (stepAt_nullary 2663 _ _ rfl) <|
  Chain.cons (stepAt_unary 2664 _ _ _ rfl (by decide)) <|
  Chain.cons (stepAt_binary 2665 _ _ _ _ rfl (by decide) (by decide)) <|
  Chain.cons (stepAt_unary 2666 _ _ _ rfl (by decide)) <|
  Chain.cons (stepAt_unary 2667 _ _ _ rfl (by decide)) <|
  Chain.cons (stepAt_binary 2668 _ _ _ _ rfl (by decide) (by decide)) <|
  Chain.cons (stepAt_unary 2669 _ _ _ rfl (by decide)) <|
  Chain.cons (stepAt_unary 2670 _ _ _ rfl (by decide)) <|
  Chain.cons (stepAt_binary 2671 _ _ _ _ rfl (by decide) (by decide)) <|
  Chain.cons (stepAt_binary 2672 _ _ _ _ rfl (by decide) (by decide)) <|
  Chain.cons (stepAt_unary 2673 _ _ _ rfl (by decide)) <|
  Chain.cons (stepAt_unary 2674 _ _ _ rfl (by decide)) <|
  Chain.cons (stepAt_binary 2675 _ _ _ _ rfl (by decide) (by decide)) <|
  Chain.cons (stepAt_unary 2676 _ _ _ rfl (by decide)) <|
  Chain.cons (stepAt_unary 2677 _ _ _ rfl (by decide)) <|
  Chain.cons (stepAt_binary 2678 _ _ _ _ rfl (by decide) (by decide)) <|
  Chain.cons (stepAt_binary 2679 _ _ _ _ rfl (by decide) (by decide)) <|
  Chain.cons (stepAt_unary 2680 _ _ _ rfl (by decide)) <|
  Chain.cons (stepAt_nullary 2681 _ _ rfl) <|
  Chain.cons (stepAt_unary 2682 _ _ _ rfl (by decide)) <|
  Chain.cons (stepAt_binary 2683 _ _ _ _ rfl (by decide) (by decide)) <|
  Chain.cons (stepAt_nullary 2684 _ _ rfl) <|
  Chain.cons (stepAt_unary 2685 _ _ _ rfl (by decide)) <|
  Chain.cons (stepAt_binary 2686 _ _ _ _ rfl (by decide) (by decide)) <|
  Chain.cons (stepAt_ternary 2687 _ _ _ _ _ rfl (by decide) (by decide) (by decide)) <|
  Chain.cons (stepAt_unary 2688 _ _ _ rfl (by decide)) <|
  Chain.cons (stepAt_binary 2689 _ _ _ _ rfl (by decide) (by decide)) <|
  Chain.cons (stepAt_unary 2690 _ _ _ rfl (by decide)) <|
  Chain.cons (stepAt_reshape 2691 _ _ _ _ rfl (by decide)) <|
  Chain.cons (stepAt_nullary 2692 _ _ rfl) <|
  Chain.cons (stepAt_unary 2693 _ _ _ rfl (by decide)) <|
  Chain.cons (stepAt_binary 2694 _ _ _ _ rfl (by decide) (by decide)) <|
  Chain.cons (stepAt_nullary 2695 _ _ rfl) <|
  Chain.cons (stepAt_unary 2696 _ _ _ rfl (by decide)) <|
  Chain.cons (stepAt_binary 2697 _ _ _ _ rfl (by decide) (by decide)) <|
  Chain.cons (stepAt_nullary 2698 _ _ rfl) <|
  Chain.cons (stepAt_unary 2699 _ _ _ rfl (by decide)) <|
  Chain.cons (stepAt_binary 2700 _ _ _ _ rfl (by decide) (by decide)) <|
  Chain.cons (stepAt_unary 2701 _ _ _ rfl (by decide)) <|
  Chain.cons (stepAt_reshape 2702 _ _ _ _ rfl (by decide)) <|
  Chain.cons (stepAt_nullary 2703 _ _ rfl) <|
  Chain.cons (stepAt_unary 2704 _ _ _ rfl (by decide)) <|
  Chain.cons (stepAt_binary 2705 _ _ _ _ rfl (by decide) (by decide)) <|
  Chain.cons (stepAt_nullary 2706 _ _ rfl) <|
  Chain.cons (stepAt_unary 2707 _ _ _ rfl (by decide)) <|
  Chain.cons (stepAt_binary 2708 _ _ _ _ rfl (by decide) (by decide)) <|
  Chain.cons (stepAt_nullary 2709 _ _ rfl) <|
  Chain.cons (stepAt_unary 2710 _ _ _ rfl (by decide)) <|
  Chain.cons (stepAt_binary 2711 _ _ _ _ rfl (by decide) (by decide)) <|
  Chain.cons (stepAt_unary 2712 _ _ _ rfl (by decide)) <|
  Chain.cons (stepAt_unary 2713 _ _ _ rfl (by decide)) <|
  Chain.cons (stepAt_binary 2714 _ _ _ _ rfl (by decide) (by decide)) <|
  Chain.cons (stepAt_binary 2715 _ _ _ _ rfl (by decide) (by decide)) <|
  Chain.cons (stepAt_unary 2716 _ _ _ rfl (by decide)) <|
  Chain.cons (stepAt_nullary 2717 _ _ rfl) <|
  Chain.cons (stepAt_nullary 2718 _ _ rfl) <|
  Chain.nil
theorem hostOps0_112_length : (hostOps0_112 : List (HloOp τ sig (Elt F))).length = 150 := rfl

set_option maxHeartbeats 4000000 in
/-- Operations 2691 … 2696 of the program, writing buffers 2719 … 2724. -/
theorem hostOps0_113_chain : Chain 2719 (hostOps0_113 : List (HloOp τ sig (Elt F))) :=
  Chain.cons (stepAt_unary 2719 _ _ _ rfl (by decide)) <|
  Chain.cons (stepAt_unary 2720 _ _ _ rfl (by decide)) <|
  Chain.cons (stepAt_binary 2721 _ _ _ _ rfl (by decide) (by decide)) <|
  Chain.cons (stepAt_unary 2722 _ _ _ rfl (by decide)) <|
  Chain.cons (stepAt_unary 2723 _ _ _ rfl (by decide)) <|
  Chain.cons (stepAt_binary 2724 _ _ _ _ rfl (by decide) (by decide)) <|
  Chain.nil
theorem hostOps0_113_length : (hostOps0_113 : List (HloOp τ sig (Elt F))).length = 6 := rfl

set_option maxHeartbeats 4000000 in
/-- Operations 2697 … 2701 of the program, writing buffers 2725 … 2729. -/
theorem hostOps0_114_chain : Chain 2725 (hostOps0_114 : List (HloOp τ sig (Elt F))) :=
  Chain.cons (stepAt_nullary 2725 _ _ rfl) <|
  Chain.cons (stepAt_unary 2726 _ _ _ rfl (by decide)) <|
  Chain.cons (stepAt_binary 2727 _ _ _ _ rfl (by decide) (by decide)) <|
  Chain.cons (stepAt_nullary 2728 _ _ rfl) <|
  Chain.cons (stepAt_nullary 2729 _ _ rfl) <|
  Chain.nil
theorem hostOps0_114_length : (hostOps0_114 : List (HloOp τ sig (Elt F))).length = 5 := rfl

set_option maxHeartbeats 4000000 in
/-- Operations 2702 … 2707 of the program, writing buffers 2730 … 2735. -/
theorem hostOps0_115_chain : Chain 2730 (hostOps0_115 : List (HloOp τ sig (Elt F))) :=
  Chain.cons (stepAt_unary 2730 _ _ _ rfl (by decide)) <|
  Chain.cons (stepAt_unary 2731 _ _ _ rfl (by decide)) <|
  Chain.cons (stepAt_binary 2732 _ _ _ _ rfl (by decide) (by decide)) <|
  Chain.cons (stepAt_unary 2733 _ _ _ rfl (by decide)) <|
  Chain.cons (stepAt_unary 2734 _ _ _ rfl (by decide)) <|
  Chain.cons (stepAt_binary 2735 _ _ _ _ rfl (by decide) (by decide)) <|
  Chain.nil
theorem hostOps0_115_length : (hostOps0_115 : List (HloOp τ sig (Elt F))).length = 6 := rfl

set_option maxHeartbeats 4000000 in
/-- Operations 2708 … 2710 of the program, writing buffers 2736 … 2738. -/
theorem hostOps0_116_chain : Chain 2736 (hostOps0_116 : List (HloOp τ sig (Elt F))) :=
  Chain.cons (stepAt_unary 2736 _ _ _ rfl (by decide)) <|
  Chain.cons (stepAt_nullary 2737 _ _ rfl) <|
  Chain.cons (stepAt_nullary 2738 _ _ rfl) <|
  Chain.nil
theorem hostOps0_116_length : (hostOps0_116 : List (HloOp τ sig (Elt F))).length = 3 := rfl

set_option maxHeartbeats 4000000 in
/-- Operations 2711 … 2716 of the program, writing buffers 2739 … 2744. -/
theorem hostOps0_117_chain : Chain 2739 (hostOps0_117 : List (HloOp τ sig (Elt F))) :=
  Chain.cons (stepAt_unary 2739 _ _ _ rfl (by decide)) <|
  Chain.cons (stepAt_unary 2740 _ _ _ rfl (by decide)) <|
  Chain.cons (stepAt_binary 2741 _ _ _ _ rfl (by decide) (by decide)) <|
  Chain.cons (stepAt_unary 2742 _ _ _ rfl (by decide)) <|
  Chain.cons (stepAt_unary 2743 _ _ _ rfl (by decide)) <|
  Chain.cons (stepAt_binary 2744 _ _ _ _ rfl (by decide) (by decide)) <|
  Chain.nil
theorem hostOps0_117_length : (hostOps0_117 : List (HloOp τ sig (Elt F))).length = 6 := rfl

set_option maxHeartbeats 4000000 in
/-- Operations 2717 … 2721 of the program, writing buffers 2745 … 2749. -/
theorem hostOps0_118_chain : Chain 2745 (hostOps0_118 : List (HloOp τ sig (Elt F))) :=
  Chain.cons (stepAt_nullary 2745 _ _ rfl) <|
  Chain.cons (stepAt_unary 2746 _ _ _ rfl (by decide)) <|
  Chain.cons (stepAt_binary 2747 _ _ _ _ rfl (by decide) (by decide)) <|
  Chain.cons (stepAt_nullary 2748 _ _ rfl) <|
  Chain.cons (stepAt_nullary 2749 _ _ rfl) <|
  Chain.nil
theorem hostOps0_118_length : (hostOps0_118 : List (HloOp τ sig (Elt F))).length = 5 := rfl

set_option maxHeartbeats 4000000 in
/-- Operations 2722 … 2727 of the program, writing buffers 2750 … 2755. -/
theorem hostOps0_119_chain : Chain 2750 (hostOps0_119 : List (HloOp τ sig (Elt F))) :=
  Chain.cons (stepAt_unary 2750 _ _ _ rfl (by decide)) <|
  Chain.cons (stepAt_unary 2751 _ _ _ rfl (by decide)) <|
  Chain.cons (stepAt_binary 2752 _ _ _ _ rfl (by decide) (by decide)) <|
  Chain.cons (stepAt_unary 2753 _ _ _ rfl (by decide)) <|
  Chain.cons (stepAt_unary 2754 _ _ _ rfl (by decide)) <|
  Chain.cons (stepAt_binary 2755 _ _ _ _ rfl (by decide) (by decide)) <|
  Chain.nil
theorem hostOps0_119_length : (hostOps0_119 : List (HloOp τ sig (Elt F))).length = 6 := rfl

end Cert.Kernel.Stretch

end
-- ==== Proof.KBStretch3.lean ====
/- The stretches of @main's host operations before the kernel's region are single-assignment lines: the operations of a
   stretch write the consecutive buffers numbered from the stated bound, each reading only buffers of smaller numbers. -/
import proofs.«133805_j10187662426200_2_alg».proof.Proof.Gen.Kernel.Launch
import proofs.«133805_j10187662426200_2_alg».proof.Proof.HostChain

set_option maxRecDepth 65536

noncomputable section

namespace Cert.Kernel.Stretch

open Cert.Kernel Cert.Kernel.Gen Idealize.ShloMosaic Idealize.ShloMosaic.TcCoe Idealize.SL.Sem Idealize.ShloMosaic.StableHlo Cert.HostFold

variable {F : FTy → Type} [FloatOps F]

set_option maxHeartbeats 4000000 in
/-- Operations 2728 … 2877 of the program, writing buffers 2756 … 2905. -/
theorem hostOps0_120_chain : Chain 2756 (hostOps0_120 : List (HloOp τ sig (Elt F))) :=
  Chain.cons (stepAt_nullary 2756 _ _ rfl) <|
  Chain.cons (stepAt_unary 2757 _ _ _ rfl (by decide)) <|
  Chain.cons (stepAt_binary 2758 _ _ _ _ rfl (by decide) (by decide)) <|
  Chain.cons (stepAt_nullary 2759 _ _ rfl) <|
  Chain.cons (stepAt_unary 2760 _ _ _ rfl (by decide)) <|
  Chain.cons (stepAt_binary 2761 _ _ _ _ rfl (by decide) (by decide)) <|
  Chain.cons (stepAt_ternary 2762 _ _ _ _ _ rfl (by decide) (by decide) (by decide)) <|
  Chain.cons (stepAt_nullary 2763 _ _ rfl) <|
  Chain.cons (stepAt_unary 2764 _ _ _ rfl (by decide)) <|
  Chain.cons (stepAt_binary 2765 _ _ _ _ rfl (by decide) (by decide)) <|
  Chain.cons (stepAt_nullary 2766 _ _ rfl) <|
  Chain.cons (stepAt_unary 2767 _ _ _ rfl (by decide)) <|
  Chain.cons (stepAt_binary 2768 _ _ _ _ rfl (by decide) (by decide)) <|
  Chain.cons (stepAt_ternary 2769 _ _ _ _ _ rfl (by decide) (by decide) (by decide)) <|
  Chain.cons (stepAt_unary 2770 _ _ _ rfl (by decide)) <|
  Chain.cons (stepAt_unary 2771 _ _ _ rfl (by decide)) <|
  Chain.cons (stepAt_binary 2772 _ _ _ _ rfl (by decide) (by decide)) <|
  Chain.cons (stepAt_binary 2773 _ _ _ _ rfl (by decide) (by decide)) <|
  Chain.cons (stepAt_nullary 2774 _ _ rfl) <|
  Chain.cons (stepAt_unary 2775 _ _ _ rfl (by decide)) <|
  Chain.cons (stepAt_binary 2776 _ _ _ _ rfl (by decide) (by decide)) <|
  Chain.cons (stepAt_nullary 2777 _ _ rfl) <|
  Chain.cons (stepAt_unary 2778 _ _ _ rfl (by decide)) <|
  Chain.cons (stepAt_binary 2779 _ _ _ _ rfl (by decide) (by decide)) <|
  Chain.cons (stepAt_ternary 2780 _ _ _ _ _ rfl (by decide) (by decide) (by decide)) <|
  Chain.cons (stepAt_nullary 2781 _ _ rfl) <|
  Chain.cons (stepAt_unary 2782 _ _ _ rfl (by decide)) <|
  Chain.cons (stepAt_binary 2783 _ _ _ _ rfl (by decide) (by decide)) <|
  Chain.cons (stepAt_nullary 2784 _ _ rfl) <|
  Chain.cons (stepAt_unary 2785 _ _ _ rfl (by decide)) <|
  Chain.cons (stepAt_binary 2786 _ _ _ _ rfl (by decide) (by decide)) <|
  Chain.cons (stepAt_ternary 2787 _ _ _ _ _ rfl (by decide) (by decide) (by decide)) <|
  Chain.cons (stepAt_unary 2788 _ _ _ rfl (by decide)) <|
  Chain.cons (stepAt_unary 2789 _ _ _ rfl (by decide)) <|
  Chain.cons (stepAt_binary 2790 _ _ _ _ rfl (by decide) (by decide)) <|
  Chain.cons (stepAt_binary 2791 _ _ _ _ rfl (by decide) (by decide)) <|
  Chain.cons (stepAt_nullary 2792 _ _ rfl) <|
  Chain.cons (stepAt_unary 2793 _ _ _ rfl (by decide)) <|
  Chain.cons (stepAt_binary 2794 _ _ _ _ rfl (by decide) (by decide)) <|
  Chain.cons (stepAt_nullary 2795 _ _ rfl) <|
  Chain.cons (stepAt_unary 2796 _ _ _ rfl (by decide)) <|
  Chain.cons (stepAt_binary 2797 _ _ _ _ rfl (by decide) (by decide)) <|
  Chain.cons (stepAt_ternary 2798 _ _ _ _ _ rfl (by decide) (by decide) (by decide)) <|
  Chain.cons (stepAt_nullary 2799 _ _ rfl) <|
  Chain.cons (stepAt_unary 2800 _ _ _ rfl (by decide)) <|
  Chain.cons (stepAt_binary 2801 _ _ _ _ rfl (by decide) (by decide)) <|
  Chain.cons (stepAt_nullary 2802 _ _ rfl) <|
  Chain.cons (stepAt_unary 2803 _ _ _ rfl (by decide)) <|
  Chain.cons (stepAt_binary 2804 _ _ _ _ rfl (by decide) (by decide)) <|
  Chain.cons (stepAt_ternary 2805 _ _ _ _ _ rfl (by decide) (by decide) (by decide)) <|
  Chain.cons (stepAt_unary 2806 _ _ _ rfl (by decide)) <|
  Chain.cons (stepAt_unary 2807 _ _ _ rfl (by decide)) <|
  Chain.cons (stepAt_binary 2808 _ _ _ _ rfl (by decide) (by decide)) <|
  Chain.cons (stepAt_binary 2809 _ _ _ _ rfl (by decide) (by decide)) <|
  Chain.cons (stepAt_nullary 2810 _ _ rfl) <|
  Chain.cons (stepAt_unary 2811 _ _ _ rfl (by decide)) <|
  Chain.cons (stepAt_binary 2812 _ _ _ _ rfl (by decide) (by decide)) <|
  Chain.cons (stepAt_nullary 2813 _ _ rfl) <|
  Chain.cons (stepAt_unary 2814 _ _ _ rfl (by decide)) <|
  Chain.cons (stepAt_binary 2815 _ _ _ _ rfl (by decide) (by decide)) <|
  Chain.cons (stepAt_ternary 2816 _ _ _ _ _ rfl (by decide) (by decide) (by decide)) <|
  Chain.cons (stepAt_nullary 2817 _ _ rfl) <|
  Chain.cons (stepAt_unary 2818 _ _ _ rfl (by decide)) <|
  Chain.cons (stepAt_binary 2819 _ _ _ _ rfl (by decide) (by decide)) <|
  Chain.cons (stepAt_nullary 2820 _ _ rfl) <|
  Chain.cons (stepAt_unary 2821 _ _ _ rfl (by decide)) <|
  Chain.cons (stepAt_binary 2822 _ _ _ _ rfl (by decide) (by decide)) <|
  Chain.cons (stepAt_ternary 2823 _ _ _ _ _ rfl (by decide) (by decide) (by decide)) <|
  Chain.cons (stepAt_unary 2824 _ _ _ rfl (by decide)) <|
  Chain.cons (stepAt_unary 2825 _ _ _ rfl (by decide)) <|
  Chain.cons (stepAt_binary 2826 _ _ _ _ rfl (by decide) (by decide)) <|
  Chain.cons (stepAt_binary 2827 _ _ _ _ rfl (by decide) (by decide)) <|
  Chain.cons (stepAt_nullary 2828 _ _ rfl) <|
  Chain.cons (stepAt_unary 2829 _ _ _ rfl (by decide)) <|
  Chain.cons (stepAt_binary 2830 _ _ _ _ rfl (by decide) (by decide)) <|
  Chain.cons (stepAt_unary 2831 _ _ _ rfl (by decide)) <|
  Chain.cons (stepAt_unary 2832 _ _ _ rfl (by decide)) <|
  Chain.cons (stepAt_binary 2833 _ _ _ _ rfl (by decide) (by decide)) <|
  Chain.cons (stepAt_nullary 2834 _ _ rfl) <|
  Chain.cons (stepAt_unary 2835 _ _ _ rfl (by decide)) <|
  Chain.cons (stepAt_binary 2836 _ _ _ _ rfl (by decide) (by decide)) <|
  Chain.cons (stepAt_unary 2837 _ _ _ rfl (by decide)) <|
  Chain.cons (stepAt_unary 2838 _ _ _ rfl (by decide)) <|
  Chain.cons (stepAt_binary 2839 _ _ _ _ rfl (by decide) (by decide)) <|
  Chain.cons (stepAt_unary 2840 _ _ _ rfl (by decide)) <|
  Chain.cons (stepAt_unary 2841 _ _ _ rfl (by decide)) <|
  Chain.cons (stepAt_binary 2842 _ _ _ _ rfl (by decide) (by decide)) <|
  Chain.cons (stepAt_nullary 2843 _ _ rfl) <|
  Chain.cons (stepAt_unary 2844 _ _ _ rfl (by decide)) <|
  Chain.cons (stepAt_binary 2845 _ _ _ _ rfl (by decide) (by decide)) <|
  Chain.cons (stepAt_unary 2846 _ _ _ rfl (by decide)) <|
  Chain.cons (stepAt_unary 2847 _ _ _ rfl (by decide)) <|
  Chain.cons (stepAt_binary 2848 _ _ _ _ rfl (by decide) (by decide)) <|
  Chain.cons (stepAt_binary 2849 _ _ _ _ rfl (by decide) (by decide)) <|
  Chain.cons (stepAt_nullary 2850 _ _ rfl) <|
  Chain.cons (stepAt_unary 2851 _ _ _ rfl (by decide)) <|
  Chain.cons (stepAt_binary 2852 _ _ _ _ rfl (by decide) (by decide)) <|
  Chain.cons (stepAt_unary 2853 _ _ _ rfl (by decide)) <|
  Chain.cons (stepAt_unary 2854 _ _ _ rfl (by decide)) <|
  Chain.cons (stepAt_binary 2855 _ _ _ _ rfl (by decide) (by decide)) <|
  Chain.cons (stepAt_unary 2856 _ _ _ rfl (by decide)) <|
  Chain.cons (stepAt_unary 2857 _ _ _ rfl (by decide)) <|
  Chain.cons (stepAt_binary 2858 _ _ _ _ rfl (by decide) (by decide)) <|
  Chain.cons (stepAt_binary 2859 _ _ _ _ rfl (by decide) (by decide)) <|
  Chain.cons (stepAt_unary 2860 _ _ _ rfl (by decide)) <|
  Chain.cons (stepAt_unary 2861 _ _ _ rfl (by decide)) <|
  Chain.cons (stepAt_binary 2862 _ _ _ _ rfl (by decide) (by decide)) <|
  Chain.cons (stepAt_unary 2863 _ _ _ rfl (by decide)) <|
  Chain.cons (stepAt_unary 2864 _ _ _ rfl (by decide)) <|
  Chain.cons (stepAt_binary 2865 _ _ _ _ rfl (by decide) (by decide)) <|
  Chain.cons (stepAt_binary 2866 _ _ _ _ rfl (by decide) (by decide)) <|
  Chain.cons (stepAt_unary 2867 _ _ _ rfl (by decide)) <|
  Chain.cons (stepAt_nullary 2868 _ _ rfl) <|
  Chain.cons (stepAt_unary 2869 _ _ _ rfl (by decide)) <|
  Chain.cons (stepAt_binary 2870 _ _ _ _ rfl (by decide) (by decide)) <|
  Chain.cons (stepAt_nullary 2871 _ _ rfl) <|
  Chain.cons (stepAt_unary 2872 _ _ _ rfl (by decide)) <|
  Chain.cons (stepAt_binary 2873 _ _ _ _ rfl (by decide) (by decide)) <|
  Chain.cons (stepAt_ternary 2874 _ _ _ _ _ rfl (by decide) (by decide) (by decide)) <|
  Chain.cons (stepAt_unary 2875 _ _ _ rfl (by decide)) <|
  Chain.cons (stepAt_binary 2876 _ _ _ _ rfl (by decide) (by decide)) <|
  Chain.cons (stepAt_unary 2877 _ _ _ rfl (by decide)) <|
  Chain.cons (stepAt_reshape 2878 _ _ _ _ rfl (by decide)) <|
  Chain.cons (stepAt_nullary 2879 _ _ rfl) <|
  Chain.cons (stepAt_unary 2880 _ _ _ rfl (by decide)) <|
  Chain.cons (stepAt_binary 2881 _ _ _ _ rfl (by decide) (by decide)) <|
  Chain.cons (stepAt_nullary 2882 _ _ rfl) <|
  Chain.cons (stepAt_unary 2883 _ _ _ rfl (by decide)) <|
  Chain.cons (stepAt_binary 2884 _ _ _ _ rfl (by decide) (by decide)) <|
  Chain.cons (stepAt_nullary 2885 _ _ rfl) <|
  Chain.cons (stepAt_unary 2886 _ _ _ rfl (by decide)) <|
  Chain.cons (stepAt_binary 2887 _ _ _ _ rfl (by decide) (by decide)) <|
  Chain.cons (stepAt_unary 2888 _ _ _ rfl (by decide)) <|
  Chain.cons (stepAt_reshape 2889 _ _ _ _ rfl (by decide)) <|
  Chain.cons (stepAt_nullary 2890 _ _ rfl) <|
  Chain.cons (stepAt_unary 2891 _ _ _ rfl (by decide)) <|
  Chain.cons (stepAt_binary 2892 _ _ _ _ rfl (by decide) (by decide)) <|
  Chain.cons (stepAt_nullary 2893 _ _ rfl) <|
  Chain.cons (stepAt_unary 2894 _ _ _ rfl (by decide)) <|
  Chain.cons (stepAt_binary 2895 _ _ _ _ rfl (by decide) (by decide)) <|
  Chain.cons (stepAt_nullary 2896 _ _ rfl) <|
  Chain.cons (stepAt_unary 2897 _ _ _ rfl (by decide)) <|
  Chain.cons (stepAt_binary 2898 _ _ _ _ rfl (by decide) (by decide)) <|
  Chain.cons (stepAt_unary 2899 _ _ _ rfl (by decide)) <|
  Chain.cons (stepAt_unary 2900 _ _ _ rfl (by decide)) <|
  Chain.cons (stepAt_binary 2901 _ _ _ _ rfl (by decide) (by decide)) <|
  Chain.cons (stepAt_binary 2902 _ _ _ _ rfl (by decide) (by decide)) <|
  Chain.cons (stepAt_unary 2903 _ _ _ rfl (by decide)) <|
  Chain.cons (stepAt_nullary 2904 _ _ rfl) <|
  Chain.cons (stepAt_nullary 2905 _ _ rfl) <|
  Chain.nil
theorem hostOps0_120_length : (hostOps0_120 : List (HloOp τ sig (Elt F))).length = 150 := rfl

set_option maxHeartbeats 4000000 in
/-- Operations 2878 … 2883 of the program, writing buffers 2906 … 2911. -/
theorem hostOps0_121_chain : Chain 2906 (hostOps0_121 : List (HloOp τ sig (Elt F))) :=
  Chain.cons (stepAt_unary 2906 _ _ _ rfl (by decide)) <|
  Chain.cons (stepAt_unary 2907 _ _ _ rfl (by decide)) <|
  Chain.cons (stepAt_binary 2908 _ _ _ _ rfl (by decide) (by decide)) <|
  Chain.cons (stepAt_unary 2909 _ _ _ rfl (by decide)) <|
  Chain.cons (stepAt_unary 2910 _ _ _ rfl (by decide)) <|
  Chain.cons (stepAt_binary 2911 _ _ _ _ rfl (by decide) (by decide)) <|
  Chain.nil
theorem hostOps0_121_length : (hostOps0_121 : List (HloOp τ sig (Elt F))).length = 6 := rfl

set_option maxHeartbeats 4000000 in
/-- Operations 2884 … 2888 of the program, writing buffers 2912 … 2916. -/
theorem hostOps0_122_chain : Chain 2912 (hostOps0_122 : List (HloOp τ sig (Elt F))) :=
  Chain.cons (stepAt_nullary 2912 _ _ rfl) <|
  Chain.cons (stepAt_unary 2913 _ _ _ rfl (by decide)) <|
  Chain.cons (stepAt_binary 2914 _ _ _ _ rfl (by decide) (by decide)) <|
  Chain.cons (stepAt_nullary 2915 _ _ rfl) <|
  Chain.cons (stepAt_nullary 2916 _ _ rfl) <|
  Chain.nil
theorem hostOps0_122_length : (hostOps0_122 : List (HloOp τ sig (Elt F))).length = 5 := rfl

set_option maxHeartbeats 4000000 in
/-- Operations 2889 … 2894 of the program, writing buffers 2917 … 2922. -/
theorem hostOps0_123_chain : Chain 2917 (hostOps0_123 : List (HloOp τ sig (Elt F))) :=
  Chain.cons (stepAt_unary 2917 _ _ _ rfl (by decide)) <|
  Chain.cons (stepAt_unary 2918 _ _ _ rfl (by decide)) <|
  Chain.cons (stepAt_binary 2919 _ _ _ _ rfl (by decide) (by decide)) <|
  Chain.cons (stepAt_unary 2920 _ _ _ rfl (by decide)) <|
  Chain.cons (stepAt_unary 2921 _ _ _ rfl (by decide)) <|
  Chain.cons (stepAt_binary 2922 _ _ _ _ rfl (by decide) (by decide)) <|
  Chain.nil
theorem hostOps0_123_length : (hostOps0_123 : List (HloOp τ sig (Elt F))).length = 6 := rfl

set_option maxHeartbeats 4000000 in
/-- Operations 2895 … 2897 of the program, writing buffers 2923 … 2925. -/
theorem hostOps0_124_chain : Chain 2923 (hostOps0_124 : List (HloOp τ sig (Elt F))) :=
  Chain.cons (stepAt_unary 2923 _ _ _ rfl (by decide)) <|
  Chain.cons (stepAt_nullary 2924 _ _ rfl) <|
  Chain.cons (stepAt_nullary 2925 _ _ rfl) <|
  Chain.nil
theorem hostOps0_124_length : (hostOps0_124 : List (HloOp τ sig (Elt F))).length = 3 := rfl

set_option maxHeartbeats 4000000 in
/-- Operations 2898 … 2903 of the program, writing buffers 2926 … 2931. -/
theorem hostOps0_125_chain : Chain 2926 (hostOps0_125 : List (HloOp τ sig (Elt F))) :=
  Chain.cons (stepAt_unary 2926 _ _ _ rfl (by decide)) <|
  Chain.cons (stepAt_unary 2927 _ _ _ rfl (by decide)) <|
  Chain.cons (stepAt_binary 2928 _ _ _ _ rfl (by decide) (by decide)) <|
  Chain.cons (stepAt_unary 2929 _ _ _ rfl (by decide)) <|
  Chain.cons (stepAt_unary 2930 _ _ _ rfl (by decide)) <|
  Chain.cons (stepAt_binary 2931 _ _ _ _ rfl (by decide) (by decide)) <|
  Chain.nil
theorem hostOps0_125_length : (hostOps0_125 : List (HloOp τ sig (Elt F))).length = 6 := rfl

set_option maxHeartbeats 4000000 in
/-- Operations 2904 … 2908 of the program, writing buffers 2932 … 2936. -/
theorem hostOps0_126_chain : Chain 2932 (hostOps0_126 : List (HloOp τ sig (Elt F))) :=
  Chain.cons (stepAt_nullary 2932 _ _ rfl) <|
  Chain.cons (stepAt_unary 2933 _ _ _ rfl (by decide)) <|
  Chain.cons (stepAt_binary 2934 _ _ _ _ rfl (by decide) (by decide)) <|
  Chain.cons (stepAt_nullary 2935 _ _ rfl) <|
  Chain.cons (stepAt_nullary 2936 _ _ rfl) <|
  Chain.nil
theorem hostOps0_126_length : (hostOps0_126 : List (HloOp τ sig (Elt F))).length = 5 := rfl

set_option maxHeartbeats 4000000 in
/-- Operations 2909 … 2914 of the program, writing buffers 2937 … 2942. -/
theorem hostOps0_127_chain : Chain 2937 (hostOps0_127 : List (HloOp τ sig (Elt F))) :=
  Chain.cons (stepAt_unary 2937 _ _ _ rfl (by decide)) <|
  Chain.cons (stepAt_unary 2938 _ _ _ rfl (by decide)) <|
  Chain.cons (stepAt_binary 2939 _ _ _ _ rfl (by decide) (by decide)) <|
  Chain.cons (stepAt_unary 2940 _ _ _ rfl (by decide)) <|
  Chain.cons (stepAt_unary 2941 _ _ _ rfl (by decide)) <|
  Chain.cons (stepAt_binary 2942 _ _ _ _ rfl (by decide) (by decide)) <|
  Chain.nil
theorem hostOps0_127_length : (hostOps0_127 : List (HloOp τ sig (Elt F))).length = 6 := rfl

set_option maxHeartbeats 4000000 in
/-- Operations 2915 … 3064 of the program, writing buffers 2943 … 3092. -/
theorem hostOps0_128_chain : Chain 2943 (hostOps0_128 : List (HloOp τ sig (Elt F))) :=
  Chain.cons (stepAt_nullary 2943 _ _ rfl) <|
  Chain.cons (stepAt_unary 2944 _ _ _ rfl (by decide)) <|
  Chain.cons (stepAt_binary 2945 _ _ _ _ rfl (by decide) (by decide)) <|
  Chain.cons (stepAt_nullary 2946 _ _ rfl) <|
  Chain.cons (stepAt_unary 2947 _ _ _ rfl (by decide)) <|
  Chain.cons (stepAt_binary 2948 _ _ _ _ rfl (by decide) (by decide)) <|
  Chain.cons (stepAt_ternary 2949 _ _ _ _ _ rfl (by decide) (by decide) (by decide)) <|
  Chain.cons (stepAt_nullary 2950 _ _ rfl) <|
  Chain.cons (stepAt_unary 2951 _ _ _ rfl (by decide)) <|
  Chain.cons (stepAt_binary 2952 _ _ _ _ rfl (by decide) (by decide)) <|
  Chain.cons (stepAt_nullary 2953 _ _ rfl) <|
  Chain.cons (stepAt_unary 2954 _ _ _ rfl (by decide)) <|
  Chain.cons (stepAt_binary 2955 _ _ _ _ rfl (by decide) (by decide)) <|
  Chain.cons (stepAt_ternary 2956 _ _ _ _ _ rfl (by decide) (by decide) (by decide)) <|
  Chain.cons (stepAt_unary 2957 _ _ _ rfl (by decide)) <|
  Chain.cons (stepAt_unary 2958 _ _ _ rfl (by decide)) <|
  Chain.cons (stepAt_binary 2959 _ _ _ _ rfl (by decide) (by decide)) <|
  Chain.cons (stepAt_binary 2960 _ _ _ _ rfl (by decide) (by decide)) <|
  Chain.cons (stepAt_nullary 2961 _ _ rfl) <|
  Chain.cons (stepAt_unary 2962 _ _ _ rfl (by decide)) <|
  Chain.cons (stepAt_binary 2963 _ _ _ _ rfl (by decide) (by decide)) <|
  Chain.cons (stepAt_nullary 2964 _ _ rfl) <|
  Chain.cons (stepAt_unary 2965 _ _ _ rfl (by decide)) <|
  Chain.cons (stepAt_binary 2966 _ _ _ _ rfl (by decide) (by decide)) <|
  Chain.cons (stepAt_ternary 2967 _ _ _ _ _ rfl (by decide) (by decide) (by decide)) <|
  Chain.cons (stepAt_nullary 2968 _ _ rfl) <|
  Chain.cons (stepAt_unary 2969 _ _ _ rfl (by decide)) <|
  Chain.cons (stepAt_binary 2970 _ _ _ _ rfl (by decide) (by decide)) <|
  Chain.cons (stepAt_nullary 2971 _ _ rfl) <|
  Chain.cons (stepAt_unary 2972 _ _ _ rfl (by decide)) <|
  Chain.cons (stepAt_binary 2973 _ _ _ _ rfl (by decide) (by decide)) <|
  Chain.cons (stepAt_ternary 2974 _ _ _ _ _ rfl (by decide) (by decide) (by decide)) <|
  Chain.cons (stepAt_unary 2975 _ _ _ rfl (by decide)) <|
  Chain.cons (stepAt_unary 2976 _ _ _ rfl (by decide)) <|
  Chain.cons (stepAt_binary 2977 _ _ _ _ rfl (by decide) (by decide)) <|
  Chain.cons (stepAt_binary 2978 _ _ _ _ rfl (by decide) (by decide)) <|
  Chain.cons (stepAt_nullary 2979 _ _ rfl) <|
  Chain.cons (stepAt_unary 2980 _ _ _ rfl (by decide)) <|
  Chain.cons (stepAt_binary 2981 _ _ _ _ rfl (by decide) (by decide)) <|
  Chain.cons (stepAt_nullary 2982 _ _ rfl) <|
  Chain.cons (stepAt_unary 2983 _ _ _ rfl (by decide)) <|
  Chain.cons (stepAt_binary 2984 _ _ _ _ rfl (by decide) (by decide)) <|
  Chain.cons (stepAt_ternary 2985 _ _ _ _ _ rfl (by decide) (by decide) (by decide)) <|
  Chain.cons (stepAt_nullary 2986 _ _ rfl) <|
  Chain.cons (stepAt_unary 2987 _ _ _ rfl (by decide)) <|
  Chain.cons (stepAt_binary 2988 _ _ _ _ rfl (by decide) (by decide)) <|
  Chain.cons (stepAt_nullary 2989 _ _ rfl) <|
  Chain.cons (stepAt_unary 2990 _ _ _ rfl (by decide)) <|
  Chain.cons (stepAt_binary 2991 _ _ _ _ rfl (by decide) (by decide)) <|
  Chain.cons (stepAt_ternary 2992 _ _ _ _ _ rfl (by decide) (by decide) (by decide)) <|
  Chain.cons (stepAt_unary 2993 _ _ _ rfl (by decide)) <|
  Chain.cons (stepAt_unary 2994 _ _ _ rfl (by decide)) <|
  Chain.cons (stepAt_binary 2995 _ _ _ _ rfl (by decide) (by decide)) <|
  Chain.cons (stepAt_binary 2996 _ _ _ _ rfl (by decide) (by decide)) <|
  Chain.cons (stepAt_nullary 2997 _ _ rfl) <|
  Chain.cons (stepAt_unary 2998 _ _ _ rfl (by decide)) <|
  Chain.cons (stepAt_binary 2999 _ _ _ _ rfl (by decide) (by decide)) <|
  Chain.cons (stepAt_nullary 3000 _ _ rfl) <|
  Chain.cons (stepAt_unary 3001 _ _ _ rfl (by decide)) <|
  Chain.cons (stepAt_binary 3002 _ _ _ _ rfl (by decide) (by decide)) <|
  Chain.cons (stepAt_ternary 3003 _ _ _ _ _ rfl (by decide) (by decide) (by decide)) <|
  Chain.cons (stepAt_nullary 3004 _ _ rfl) <|
  Chain.cons (stepAt_unary 3005 _ _ _ rfl (by decide)) <|
  Chain.cons (stepAt_binary 3006 _ _ _ _ rfl (by decide) (by decide)) <|
  Chain.cons (stepAt_nullary 3007 _ _ rfl) <|
  Chain.cons (stepAt_unary 3008 _ _ _ rfl (by decide)) <|
  Chain.cons (stepAt_binary 3009 _ _ _ _ rfl (by decide) (by decide)) <|
  Chain.cons (stepAt_ternary 3010 _ _ _ _ _ rfl (by decide) (by decide) (by decide)) <|
  Chain.cons (stepAt_unary 3011 _ _ _ rfl (by decide)) <|
  Chain.cons (stepAt_unary 3012 _ _ _ rfl (by decide)) <|
  Chain.cons (stepAt_binary 3013 _ _ _ _ rfl (by decide) (by decide)) <|
  Chain.cons (stepAt_binary 3014 _ _ _ _ rfl (by decide) (by decide)) <|
  Chain.cons (stepAt_nullary 3015 _ _ rfl) <|
  Chain.cons (stepAt_unary 3016 _ _ _ rfl (by decide)) <|
  Chain.cons (stepAt_binary 3017 _ _ _ _ rfl (by decide) (by decide)) <|
  Chain.cons (stepAt_unary 3018 _ _ _ rfl (by decide)) <|
  Chain.cons (stepAt_unary 3019 _ _ _ rfl (by decide)) <|
  Chain.cons (stepAt_binary 3020 _ _ _ _ rfl (by decide) (by decide)) <|
  Chain.cons (stepAt_nullary 3021 _ _ rfl) <|
  Chain.cons (stepAt_unary 3022 _ _ _ rfl (by decide)) <|
  Chain.cons (stepAt_binary 3023 _ _ _ _ rfl (by decide) (by decide)) <|
  Chain.cons (stepAt_unary 3024 _ _ _ rfl (by decide)) <|
  Chain.cons (stepAt_unary 3025 _ _ _ rfl (by decide)) <|
  Chain.cons (stepAt_binary 3026 _ _ _ _ rfl (by decide) (by decide)) <|
  Chain.cons (stepAt_unary 3027 _ _ _ rfl (by decide)) <|
  Chain.cons (stepAt_unary 3028 _ _ _ rfl (by decide)) <|
  Chain.cons (stepAt_binary 3029 _ _ _ _ rfl (by decide) (by decide)) <|
  Chain.cons (stepAt_nullary 3030 _ _ rfl) <|
  Chain.cons (stepAt_unary 3031 _ _ _ rfl (by decide)) <|
  Chain.cons (stepAt_binary 3032 _ _ _ _ rfl (by decide) (by decide)) <|
  Chain.cons (stepAt_unary 3033 _ _ _ rfl (by decide)) <|
  Chain.cons (stepAt_unary 3034 _ _ _ rfl (by decide)) <|
  Chain.cons (stepAt_binary 3035 _ _ _ _ rfl (by decide) (by decide)) <|
  Chain.cons (stepAt_binary 3036 _ _ _ _ rfl (by decide) (by decide)) <|
  Chain.cons (stepAt_nullary 3037 _ _ rfl) <|
  Chain.cons (stepAt_unary 3038 _ _ _ rfl (by decide)) <|
  Chain.cons (stepAt_binary 3039 _ _ _ _ rfl (by decide) (by decide)) <|
  Chain.cons (stepAt_unary 3040 _ _ _ rfl (by decide)) <|
  Chain.cons (stepAt_unary 3041 _ _ _ rfl (by decide)) <|
  Chain.cons (stepAt_binary 3042 _ _ _ _ rfl (by decide) (by decide)) <|
  Chain.cons (stepAt_unary 3043 _ _ _ rfl (by decide)) <|
  Chain.cons (stepAt_unary 3044 _ _ _ rfl (by decide)) <|
  Chain.cons (stepAt_binary 3045 _ _ _ _ rfl (by decide) (by decide)) <|
  Chain.cons (stepAt_binary 3046 _ _ _ _ rfl (by decide) (by decide)) <|
  Chain.cons (stepAt_unary 3047 _ _ _ rfl (by decide)) <|
  Chain.cons (stepAt_unary 3048 _ _ _ rfl (by decide)) <|
  Chain.cons (stepAt_binary 3049 _ _ _ _ rfl (by decide) (by decide)) <|
  Chain.cons (stepAt_unary 3050 _ _ _ rfl (by decide)) <|
  Chain.cons (stepAt_unary 3051 _ _ _ rfl (by decide)) <|
  Chain.cons (stepAt_binary 3052 _ _ _ _ rfl (by decide) (by decide)) <|
  Chain.cons (stepAt_binary 3053 _ _ _ _ rfl (by decide) (by decide)) <|
  Chain.cons (stepAt_unary 3054 _ _ _ rfl (by decide)) <|
  Chain.cons (stepAt_nullary 3055 _ _ rfl) <|
  Chain.cons (stepAt_unary 3056 _ _ _ rfl (by decide)) <|
  Chain.cons (stepAt_binary 3057 _ _ _ _ rfl (by decide) (by decide)) <|
  Chain.cons (stepAt_nullary 3058 _ _ rfl) <|
  Chain.cons (stepAt_unary 3059 _ _ _ rfl (by decide)) <|
  Chain.cons (stepAt_binary 3060 _ _ _ _ rfl (by decide) (by decide)) <|
  Chain.cons (stepAt_ternary 3061 _ _ _ _ _ rfl (by decide) (by decide) (by decide)) <|
  Chain.cons (stepAt_unary 3062 _ _ _ rfl (by decide)) <|
  Chain.cons (stepAt_binary 3063 _ _ _ _ rfl (by decide) (by decide)) <|
  Chain.cons (stepAt_unary 3064 _ _ _ rfl (by decide)) <|
  Chain.cons (stepAt_reshape 3065 _ _ _ _ rfl (by decide)) <|
  Chain.cons (stepAt_nullary 3066 _ _ rfl) <|
  Chain.cons (stepAt_unary 3067 _ _ _ rfl (by decide)) <|
  Chain.cons (stepAt_binary 3068 _ _ _ _ rfl (by decide) (by decide)) <|
  Chain.cons (stepAt_nullary 3069 _ _ rfl) <|
  Chain.cons (stepAt_unary 3070 _ _ _ rfl (by decide)) <|
  Chain.cons (stepAt_binary 3071 _ _ _ _ rfl (by decide) (by decide)) <|
  Chain.cons (stepAt_nullary 3072 _ _ rfl) <|
  Chain.cons (stepAt_unary 3073 _ _ _ rfl (by decide)) <|
  Chain.cons (stepAt_binary 3074 _ _ _ _ rfl (by decide) (by decide)) <|
  Chain.cons (stepAt_unary 3075 _ _ _ rfl (by decide)) <|
  Chain.cons (stepAt_reshape 3076 _ _ _ _ rfl (by decide)) <|
  Chain.cons (stepAt_nullary 3077 _ _ rfl) <|
  Chain.cons (stepAt_unary 3078 _ _ _ rfl (by decide)) <|
  Chain.cons (stepAt_binary 3079 _ _ _ _ rfl (by decide) (by decide)) <|
  Chain.cons (stepAt_nullary 3080 _ _ rfl) <|
  Chain.cons (stepAt_unary 3081 _ _ _ rfl (by decide)) <|
  Chain.cons (stepAt_binary 3082 _ _ _ _ rfl (by decide) (by decide)) <|
  Chain.cons (stepAt_nullary 3083 _ _ rfl) <|
  Chain.cons (stepAt_unary 3084 _ _ _ rfl (by decide)) <|
  Chain.cons (stepAt_binary 3085 _ _ _ _ rfl (by decide) (by decide)) <|
  Chain.cons (stepAt_unary 3086 _ _ _ rfl (by decide)) <|
  Chain.cons (stepAt_unary 3087 _ _ _ rfl (by decide)) <|
  Chain.cons (stepAt_binary 3088 _ _ _ _ rfl (by decide) (by decide)) <|
  Chain.cons (stepAt_binary 3089 _ _ _ _ rfl (by decide) (by decide)) <|
  Chain.cons (stepAt_unary 3090 _ _ _ rfl (by decide)) <|
  Chain.cons (stepAt_nullary 3091 _ _ rfl) <|
  Chain.cons (stepAt_nullary 3092 _ _ rfl) <|
  Chain.nil
theorem hostOps0_128_length : (hostOps0_128 : List (HloOp τ sig (Elt F))).length = 150 := rfl

set_option maxHeartbeats 4000000 in
/-- Operations 3065 … 3070 of the program, writing buffers 3093 … 3098. -/
theorem hostOps0_129_chain : Chain 3093 (hostOps0_129 : List (HloOp τ sig (Elt F))) :=
  Chain.cons (stepAt_unary 3093 _ _ _ rfl (by decide)) <|
  Chain.cons (stepAt_unary 3094 _ _ _ rfl (by decide)) <|
  Chain.cons (stepAt_binary 3095 _ _ _ _ rfl (by decide) (by decide)) <|
  Chain.cons (stepAt_unary 3096 _ _ _ rfl (by decide)) <|
  Chain.cons (stepAt_unary 3097 _ _ _ rfl (by decide)) <|
  Chain.cons (stepAt_binary 3098 _ _ _ _ rfl (by decide) (by decide)) <|
  Chain.nil
theorem hostOps0_129_length : (hostOps0_129 : List (HloOp τ sig (Elt F))).length = 6 := rfl

set_option maxHeartbeats 4000000 in
/-- Operations 3071 … 3075 of the program, writing buffers 3099 … 3103. -/
theorem hostOps0_130_chain : Chain 3099 (hostOps0_130 : List (HloOp τ sig (Elt F))) :=
  Chain.cons (stepAt_nullary 3099 _ _ rfl) <|
  Chain.cons (stepAt_unary 3100 _ _ _ rfl (by decide)) <|
  Chain.cons (stepAt_binary 3101 _ _ _ _ rfl (by decide) (by decide)) <|
  Chain.cons (stepAt_nullary 3102 _ _ rfl) <|
  Chain.cons (stepAt_nullary 3103 _ _ rfl) <|
  Chain.nil
theorem hostOps0_130_length : (hostOps0_130 : List (HloOp τ sig (Elt F))).length = 5 := rfl

set_option maxHeartbeats 4000000 in
/-- Operations 3076 … 3081 of the program, writing buffers 3104 … 3109. -/
theorem hostOps0_131_chain : Chain 3104 (hostOps0_131 : List (HloOp τ sig (Elt F))) :=
  Chain.cons (stepAt_unary 3104 _ _ _ rfl (by decide)) <|
  Chain.cons (stepAt_unary 3105 _ _ _ rfl (by decide)) <|
  Chain.cons (stepAt_binary 3106 _ _ _ _ rfl (by decide) (by decide)) <|
  Chain.cons (stepAt_unary 3107 _ _ _ rfl (by decide)) <|
  Chain.cons (stepAt_unary 3108 _ _ _ rfl (by decide)) <|
  Chain.cons (stepAt_binary 3109 _ _ _ _ rfl (by decide) (by decide)) <|
  Chain.nil
theorem hostOps0_131_length : (hostOps0_131 : List (HloOp τ sig (Elt F))).length = 6 := rfl

set_option maxHeartbeats 4000000 in
/-- Operations 3082 … 3084 of the program, writing buffers 3110 … 3112. -/
theorem hostOps0_132_chain : Chain 3110 (hostOps0_132 : List (HloOp τ sig (Elt F))) :=
  Chain.cons (stepAt_unary 3110 _ _ _ rfl (by decide)) <|
  Chain.cons (stepAt_nullary 3111 _ _ rfl) <|
  Chain.cons (stepAt_nullary 3112 _ _ rfl) <|
  Chain.nil
theorem hostOps0_132_length : (hostOps0_132 : List (HloOp τ sig (Elt F))).length = 3 := rfl

set_option maxHeartbeats 4000000 in
/-- Operations 3085 … 3090 of the program, writing buffers 3113 … 3118. -/
theorem hostOps0_133_chain : Chain 3113 (hostOps0_133 : List (HloOp τ sig (Elt F))) :=
  Chain.cons (stepAt_unary 3113 _ _ _ rfl (by decide)) <|
  Chain.cons (stepAt_unary 3114 _ _ _ rfl (by decide)) <|
  Chain.cons (stepAt_binary 3115 _ _ _ _ rfl (by decide) (by decide)) <|
  Chain.cons (stepAt_unary 3116 _ _ _ rfl (by decide)) <|
  Chain.cons (stepAt_unary 3117 _ _ _ rfl (by decide)) <|
  Chain.cons (stepAt_binary 3118 _ _ _ _ rfl (by decide) (by decide)) <|
  Chain.nil
theorem hostOps0_133_length : (hostOps0_133 : List (HloOp τ sig (Elt F))).length = 6 := rfl

set_option maxHeartbeats 4000000 in
/-- Operations 3091 … 3095 of the program, writing buffers 3119 … 3123. -/
theorem hostOps0_134_chain : Chain 3119 (hostOps0_134 : List (HloOp τ sig (Elt F))) :=
  Chain.cons (stepAt_nullary 3119 _ _ rfl) <|
  Chain.cons (stepAt_unary 3120 _ _ _ rfl (by decide)) <|
  Chain.cons (stepAt_binary 3121 _ _ _ _ rfl (by decide) (by decide)) <|
  Chain.cons (stepAt_nullary 3122 _ _ rfl) <|
  Chain.cons (stepAt_nullary 3123 _ _ rfl) <|
  Chain.nil
theorem hostOps0_134_length : (hostOps0_134 : List (HloOp τ sig (Elt F))).length = 5 := rfl

set_option maxHeartbeats 4000000 in
/-- Operations 3096 … 3101 of the program, writing buffers 3124 … 3129. -/
theorem hostOps0_135_chain : Chain 3124 (hostOps0_135 : List (HloOp τ sig (Elt F))) :=
  Chain.cons (stepAt_unary 3124 _ _ _ rfl (by decide)) <|
  Chain.cons (stepAt_unary 3125 _ _ _ rfl (by decide)) <|
  Chain.cons (stepAt_binary 3126 _ _ _ _ rfl (by decide) (by decide)) <|
  Chain.cons (stepAt_unary 3127 _ _ _ rfl (by decide)) <|
  Chain.cons (stepAt_unary 3128 _ _ _ rfl (by decide)) <|
  Chain.cons (stepAt_binary 3129 _ _ _ _ rfl (by decide) (by decide)) <|
  Chain.nil
theorem hostOps0_135_length : (hostOps0_135 : List (HloOp τ sig (Elt F))).length = 6 := rfl

set_option maxHeartbeats 4000000 in
/-- Operations 3102 … 3251 of the program, writing buffers 3130 … 3279. -/
theorem hostOps0_136_chain : Chain 3130 (hostOps0_136 : List (HloOp τ sig (Elt F))) :=
  Chain.cons (stepAt_nullary 3130 _ _ rfl) <|
  Chain.cons (stepAt_unary 3131 _ _ _ rfl (by decide)) <|
  Chain.cons (stepAt_binary 3132 _ _ _ _ rfl (by decide) (by decide)) <|
  Chain.cons (stepAt_nullary 3133 _ _ rfl) <|
  Chain.cons (stepAt_unary 3134 _ _ _ rfl (by decide)) <|
  Chain.cons (stepAt_binary 3135 _ _ _ _ rfl (by decide) (by decide)) <|
  Chain.cons (stepAt_ternary 3136 _ _ _ _ _ rfl (by decide) (by decide) (by decide)) <|
  Chain.cons (stepAt_nullary 3137 _ _ rfl) <|
  Chain.cons (stepAt_unary 3138 _ _ _ rfl (by decide)) <|
  Chain.cons (stepAt_binary 3139 _ _ _ _ rfl (by decide) (by decide)) <|
  Chain.cons (stepAt_nullary 3140 _ _ rfl) <|
  Chain.cons (stepAt_unary 3141 _ _ _ rfl (by decide)) <|
  Chain.cons (stepAt_binary 3142 _ _ _ _ rfl (by decide) (by decide)) <|
  Chain.cons (stepAt_ternary 3143 _ _ _ _ _ rfl (by decide) (by decide) (by decide)) <|
  Chain.cons (stepAt_unary 3144 _ _ _ rfl (by decide)) <|
  Chain.cons (stepAt_unary 3145 _ _ _ rfl (by decide)) <|
  Chain.cons (stepAt_binary 3146 _ _ _ _ rfl (by decide) (by decide)) <|
  Chain.cons (stepAt_binary 3147 _ _ _ _ rfl (by decide) (by decide)) <|
  Chain.cons (stepAt_nullary 3148 _ _ rfl) <|
  Chain.cons (stepAt_unary 3149 _ _ _ rfl (by decide)) <|
  Chain.cons (stepAt_binary 3150 _ _ _ _ rfl (by decide) (by decide)) <|
  Chain.cons (stepAt_nullary 3151 _ _ rfl) <|
  Chain.cons (stepAt_unary 3152 _ _ _ rfl (by decide)) <|
  Chain.cons (stepAt_binary 3153 _ _ _ _ rfl (by decide) (by decide)) <|
  Chain.cons (stepAt_ternary 3154 _ _ _ _ _ rfl (by decide) (by decide) (by decide)) <|
  Chain.cons (stepAt_nullary 3155 _ _ rfl) <|
  Chain.cons (stepAt_unary 3156 _ _ _ rfl (by decide)) <|
  Chain.cons (stepAt_binary 3157 _ _ _ _ rfl (by decide) (by decide)) <|
  Chain.cons (stepAt_nullary 3158 _ _ rfl) <|
  Chain.cons (stepAt_unary 3159 _ _ _ rfl (by decide)) <|
  Chain.cons (stepAt_binary 3160 _ _ _ _ rfl (by decide) (by decide)) <|
  Chain.cons (stepAt_ternary 3161 _ _ _ _ _ rfl (by decide) (by decide) (by decide)) <|
  Chain.cons (stepAt_unary 3162 _ _ _ rfl (by decide)) <|
  Chain.cons (stepAt_unary 3163 _ _ _ rfl (by decide)) <|
  Chain.cons (stepAt_binary 3164 _ _ _ _ rfl (by decide) (by decide)) <|
  Chain.cons (stepAt_binary 3165 _ _ _ _ rfl (by decide) (by decide)) <|
  Chain.cons (stepAt_nullary 3166 _ _ rfl) <|
  Chain.cons (stepAt_unary 3167 _ _ _ rfl (by decide)) <|
  Chain.cons (stepAt_binary 3168 _ _ _ _ rfl (by decide) (by decide)) <|
  Chain.cons (stepAt_nullary 3169 _ _ rfl) <|
  Chain.cons (stepAt_unary 3170 _ _ _ rfl (by decide)) <|
  Chain.cons (stepAt_binary 3171 _ _ _ _ rfl (by decide) (by decide)) <|
  Chain.cons (stepAt_ternary 3172 _ _ _ _ _ rfl (by decide) (by decide) (by decide)) <|
  Chain.cons (stepAt_nullary 3173 _ _ rfl) <|
  Chain.cons (stepAt_unary 3174 _ _ _ rfl (by decide)) <|
  Chain.cons (stepAt_binary 3175 _ _ _ _ rfl (by decide) (by decide)) <|
  Chain.cons (stepAt_nullary 3176 _ _ rfl) <|
  Chain.cons (stepAt_unary 3177 _ _ _ rfl (by decide)) <|
  Chain.cons (stepAt_binary 3178 _ _ _ _ rfl (by decide) (by decide)) <|
  Chain.cons (stepAt_ternary 3179 _ _ _ _ _ rfl (by decide) (by decide) (by decide)) <|
  Chain.cons (stepAt_unary 3180 _ _ _ rfl (by decide)) <|
  Chain.cons (stepAt_unary 3181 _ _ _ rfl (by decide)) <|
  Chain.cons (stepAt_binary 3182 _ _ _ _ rfl (by decide) (by decide)) <|
  Chain.cons (stepAt_binary 3183 _ _ _ _ rfl (by decide) (by decide)) <|
  Chain.cons (stepAt_nullary 3184 _ _ rfl) <|
  Chain.cons (stepAt_unary 3185 _ _ _ rfl (by decide)) <|
  Chain.cons (stepAt_binary 3186 _ _ _ _ rfl (by decide) (by decide)) <|
  Chain.cons (stepAt_nullary 3187 _ _ rfl) <|
  Chain.cons (stepAt_unary 3188 _ _ _ rfl (by decide)) <|
  Chain.cons (stepAt_binary 3189 _ _ _ _ rfl (by decide) (by decide)) <|
  Chain.cons (stepAt_ternary 3190 _ _ _ _ _ rfl (by decide) (by decide) (by decide)) <|
  Chain.cons (stepAt_nullary 3191 _ _ rfl) <|
  Chain.cons (stepAt_unary 3192 _ _ _ rfl (by decide)) <|
  Chain.cons (stepAt_binary 3193 _ _ _ _ rfl (by decide) (by decide)) <|
  Chain.cons (stepAt_nullary 3194 _ _ rfl) <|
  Chain.cons (stepAt_unary 3195 _ _ _ rfl (by decide)) <|
  Chain.cons (stepAt_binary 3196 _ _ _ _ rfl (by decide) (by decide)) <|
  Chain.cons (stepAt_ternary 3197 _ _ _ _ _ rfl (by decide) (by decide) (by decide)) <|
  Chain.cons (stepAt_unary 3198 _ _ _ rfl (by decide)) <|
  Chain.cons (stepAt_unary 3199 _ _ _ rfl (by decide)) <|
  Chain.cons (stepAt_binary 3200 _ _ _ _ rfl (by decide) (by decide)) <|
  Chain.cons (stepAt_binary 3201 _ _ _ _ rfl (by decide) (by decide)) <|
  Chain.cons (stepAt_nullary 3202 _ _ rfl) <|
  Chain.cons (stepAt_unary 3203 _ _ _ rfl (by decide)) <|
  Chain.cons (stepAt_binary 3204 _ _ _ _ rfl (by decide) (by decide)) <|
  Chain.cons (stepAt_unary 3205 _ _ _ rfl (by decide)) <|
  Chain.cons (stepAt_unary 3206 _ _ _ rfl (by decide)) <|
  Chain.cons (stepAt_binary 3207 _ _ _ _ rfl (by decide) (by decide)) <|
  Chain.cons (stepAt_nullary 3208 _ _ rfl) <|
  Chain.cons (stepAt_unary 3209 _ _ _ rfl (by decide)) <|
  Chain.cons (stepAt_binary 3210 _ _ _ _ rfl (by decide) (by decide)) <|
  Chain.cons (stepAt_unary 3211 _ _ _ rfl (by decide)) <|
  Chain.cons (stepAt_unary 3212 _ _ _ rfl (by decide)) <|
  Chain.cons (stepAt_binary 3213 _ _ _ _ rfl (by decide) (by decide)) <|
  Chain.cons (stepAt_unary 3214 _ _ _ rfl (by decide)) <|
  Chain.cons (stepAt_unary 3215 _ _ _ rfl (by decide)) <|
  Chain.cons (stepAt_binary 3216 _ _ _ _ rfl (by decide) (by decide)) <|
  Chain.cons (stepAt_nullary 3217 _ _ rfl) <|
  Chain.cons (stepAt_unary 3218 _ _ _ rfl (by decide)) <|
  Chain.cons (stepAt_binary 3219 _ _ _ _ rfl (by decide) (by decide)) <|
  Chain.cons (stepAt_unary 3220 _ _ _ rfl (by decide)) <|
  Chain.cons (stepAt_unary 3221 _ _ _ rfl (by decide)) <|
  Chain.cons (stepAt_binary 3222 _ _ _ _ rfl (by decide) (by decide)) <|
  Chain.cons (stepAt_binary 3223 _ _ _ _ rfl (by decide) (by decide)) <|
  Chain.cons (stepAt_nullary 3224 _ _ rfl) <|
  Chain.cons (stepAt_unary 3225 _ _ _ rfl (by decide)) <|
  Chain.cons (stepAt_binary 3226 _ _ _ _ rfl (by decide) (by decide)) <|
  Chain.cons (stepAt_unary 3227 _ _ _ rfl (by decide)) <|
  Chain.cons (stepAt_unary 3228 _ _ _ rfl (by decide)) <|
  Chain.cons (stepAt_binary 3229 _ _ _ _ rfl (by decide) (by decide)) <|
  Chain.cons (stepAt_unary 3230 _ _ _ rfl (by decide)) <|
  Chain.cons (stepAt_unary 3231 _ _ _ rfl (by decide)) <|
  Chain.cons (stepAt_binary 3232 _ _ _ _ rfl (by decide) (by decide)) <|
  Chain.cons (stepAt_binary 3233 _ _ _ _ rfl (by decide) (by decide)) <|
  Chain.cons (stepAt_unary 3234 _ _ _ rfl (by decide)) <|
  Chain.cons (stepAt_unary 3235 _ _ _ rfl (by decide)) <|
  Chain.cons (stepAt_binary 3236 _ _ _ _ rfl (by decide) (by decide)) <|
  Chain.cons (stepAt_unary 3237 _ _ _ rfl (by decide)) <|
  Chain.cons (stepAt_unary 3238 _ _ _ rfl (by decide)) <|
  Chain.cons (stepAt_binary 3239 _ _ _ _ rfl (by decide) (by decide)) <|
  Chain.cons (stepAt_binary 3240 _ _ _ _ rfl (by decide) (by decide)) <|
  Chain.cons (stepAt_unary 3241 _ _ _ rfl (by decide)) <|
  Chain.cons (stepAt_nullary 3242 _ _ rfl) <|
  Chain.cons (stepAt_unary 3243 _ _ _ rfl (by decide)) <|
  Chain.cons (stepAt_binary 3244 _ _ _ _ rfl (by decide) (by decide)) <|
  Chain.cons (stepAt_nullary 3245 _ _ rfl) <|
  Chain.cons (stepAt_unary 3246 _ _ _ rfl (by decide)) <|
  Chain.cons (stepAt_binary 3247 _ _ _ _ rfl (by decide) (by decide)) <|
  Chain.cons (stepAt_ternary 3248 _ _ _ _ _ rfl (by decide) (by decide) (by decide)) <|
  Chain.cons (stepAt_unary 3249 _ _ _ rfl (by decide)) <|
  Chain.cons (stepAt_binary 3250 _ _ _ _ rfl (by decide) (by decide)) <|
  Chain.cons (stepAt_unary 3251 _ _ _ rfl (by decide)) <|
  Chain.cons (stepAt_reshape 3252 _ _ _ _ rfl (by decide)) <|
  Chain.cons (stepAt_nullary 3253 _ _ rfl) <|
  Chain.cons (stepAt_unary 3254 _ _ _ rfl (by decide)) <|
  Chain.cons (stepAt_binary 3255 _ _ _ _ rfl (by decide) (by decide)) <|
  Chain.cons (stepAt_nullary 3256 _ _ rfl) <|
  Chain.cons (stepAt_unary 3257 _ _ _ rfl (by decide)) <|
  Chain.cons (stepAt_binary 3258 _ _ _ _ rfl (by decide) (by decide)) <|
  Chain.cons (stepAt_nullary 3259 _ _ rfl) <|
  Chain.cons (stepAt_unary 3260 _ _ _ rfl (by decide)) <|
  Chain.cons (stepAt_binary 3261 _ _ _ _ rfl (by decide) (by decide)) <|
  Chain.cons (stepAt_unary 3262 _ _ _ rfl (by decide)) <|
  Chain.cons (stepAt_reshape 3263 _ _ _ _ rfl (by decide)) <|
  Chain.cons (stepAt_nullary 3264 _ _ rfl) <|
  Chain.cons (stepAt_unary 3265 _ _ _ rfl (by decide)) <|
  Chain.cons (stepAt_binary 3266 _ _ _ _ rfl (by decide) (by decide)) <|
  Chain.cons (stepAt_nullary 3267 _ _ rfl) <|
  Chain.cons (stepAt_unary 3268 _ _ _ rfl (by decide)) <|
  Chain.cons (stepAt_binary 3269 _ _ _ _ rfl (by decide) (by decide)) <|
  Chain.cons (stepAt_nullary 3270 _ _ rfl) <|
  Chain.cons (stepAt_unary 3271 _ _ _ rfl (by decide)) <|
  Chain.cons (stepAt_binary 3272 _ _ _ _ rfl (by decide) (by decide)) <|
  Chain.cons (stepAt_unary 3273 _ _ _ rfl (by decide)) <|
  Chain.cons (stepAt_unary 3274 _ _ _ rfl (by decide)) <|
  Chain.cons (stepAt_binary 3275 _ _ _ _ rfl (by decide) (by decide)) <|
  Chain.cons (stepAt_binary 3276 _ _ _ _ rfl (by decide) (by decide)) <|
  Chain.cons (stepAt_unary 3277 _ _ _ rfl (by decide)) <|
  Chain.cons (stepAt_nullary 3278 _ _ rfl) <|
  Chain.cons (stepAt_nullary 3279 _ _ rfl) <|
  Chain.nil
theorem hostOps0_136_length : (hostOps0_136 : List (HloOp τ sig (Elt F))).length = 150 := rfl

set_option maxHeartbeats 4000000 in
/-- Operations 3252 … 3257 of the program, writing buffers 3280 … 3285. -/
theorem hostOps0_137_chain : Chain 3280 (hostOps0_137 : List (HloOp τ sig (Elt F))) :=
  Chain.cons (stepAt_unary 3280 _ _ _ rfl (by decide)) <|
  Chain.cons (stepAt_unary 3281 _ _ _ rfl (by decide)) <|
  Chain.cons (stepAt_binary 3282 _ _ _ _ rfl (by decide) (by decide)) <|
  Chain.cons (stepAt_unary 3283 _ _ _ rfl (by decide)) <|
  Chain.cons (stepAt_unary 3284 _ _ _ rfl (by decide)) <|
  Chain.cons (stepAt_binary 3285 _ _ _ _ rfl (by decide) (by decide)) <|
  Chain.nil
theorem hostOps0_137_length : (hostOps0_137 : List (HloOp τ sig (Elt F))).length = 6 := rfl

set_option maxHeartbeats 4000000 in
/-- Operations 3258 … 3262 of the program, writing buffers 3286 … 3290. -/
theorem hostOps0_138_chain : Chain 3286 (hostOps0_138 : List (HloOp τ sig (Elt F))) :=
  Chain.cons (stepAt_nullary 3286 _ _ rfl) <|
  Chain.cons (stepAt_unary 3287 _ _ _ rfl (by decide)) <|
  Chain.cons (stepAt_binary 3288 _ _ _ _ rfl (by decide) (by decide)) <|
  Chain.cons (stepAt_nullary 3289 _ _ rfl) <|
  Chain.cons (stepAt_nullary 3290 _ _ rfl) <|
  Chain.nil
theorem hostOps0_138_length : (hostOps0_138 : List (HloOp τ sig (Elt F))).length = 5 := rfl

set_option maxHeartbeats 4000000 in
/-- Operations 3263 … 3268 of the program, writing buffers 3291 … 3296. -/
theorem hostOps0_139_chain : Chain 3291 (hostOps0_139 : List (HloOp τ sig (Elt F))) :=
  Chain.cons (stepAt_unary 3291 _ _ _ rfl (by decide)) <|
  Chain.cons (stepAt_unary 3292 _ _ _ rfl (by decide)) <|
  Chain.cons (stepAt_binary 3293 _ _ _ _ rfl (by decide) (by decide)) <|
  Chain.cons (stepAt_unary 3294 _ _ _ rfl (by decide)) <|
  Chain.cons (stepAt_unary 3295 _ _ _ rfl (by decide)) <|
  Chain.cons (stepAt_binary 3296 _ _ _ _ rfl (by decide) (by decide)) <|
  Chain.nil
theorem hostOps0_139_length : (hostOps0_139 : List (HloOp τ sig (Elt F))).length = 6 := rfl

set_option maxHeartbeats 4000000 in
/-- Operations 3269 … 3271 of the program, writing buffers 3297 … 3299. -/
theorem hostOps0_140_chain : Chain 3297 (hostOps0_140 : List (HloOp τ sig (Elt F))) :=
  Chain.cons (stepAt_unary 3297 _ _ _ rfl (by decide)) <|
  Chain.cons (stepAt_nullary 3298 _ _ rfl) <|
  Chain.cons (stepAt_nullary 3299 _ _ rfl) <|
  Chain.nil
theorem hostOps0_140_length : (hostOps0_140 : List (HloOp τ sig (Elt F))).length = 3 := rfl

set_option maxHeartbeats 4000000 in
/-- Operations 3272 … 3277 of the program, writing buffers 3300 … 3305. -/
theorem hostOps0_141_chain : Chain 3300 (hostOps0_141 : List (HloOp τ sig (Elt F))) :=
  Chain.cons (stepAt_unary 3300 _ _ _ rfl (by decide)) <|
  Chain.cons (stepAt_unary 3301 _ _ _ rfl (by decide)) <|
  Chain.cons (stepAt_binary 3302 _ _ _ _ rfl (by decide) (by decide)) <|
  Chain.cons (stepAt_unary 3303 _ _ _ rfl (by decide)) <|
  Chain.cons (stepAt_unary 3304 _ _ _ rfl (by decide)) <|
  Chain.cons (stepAt_binary 3305 _ _ _ _ rfl (by decide) (by decide)) <|
  Chain.nil
theorem hostOps0_141_length : (hostOps0_141 : List (HloOp τ sig (Elt F))).length = 6 := rfl

set_option maxHeartbeats 4000000 in
/-- Operations 3278 … 3282 of the program, writing buffers 3306 … 3310. -/
theorem hostOps0_142_chain : Chain 3306 (hostOps0_142 : List (HloOp τ sig (Elt F))) :=
  Chain.cons (stepAt_nullary 3306 _ _ rfl) <|
  Chain.cons (stepAt_unary 3307 _ _ _ rfl (by decide)) <|
  Chain.cons (stepAt_binary 3308 _ _ _ _ rfl (by decide) (by decide)) <|
  Chain.cons (stepAt_nullary 3309 _ _ rfl) <|
  Chain.cons (stepAt_nullary 3310 _ _ rfl) <|
  Chain.nil
theorem hostOps0_142_length : (hostOps0_142 : List (HloOp τ sig (Elt F))).length = 5 := rfl

set_option maxHeartbeats 4000000 in
/-- Operations 3283 … 3288 of the program, writing buffers 3311 … 3316. -/
theorem hostOps0_143_chain : Chain 3311 (hostOps0_143 : List (HloOp τ sig (Elt F))) :=
  Chain.cons (stepAt_unary 3311 _ _ _ rfl (by decide)) <|
  Chain.cons (stepAt_unary 3312 _ _ _ rfl (by decide)) <|
  Chain.cons (stepAt_binary 3313 _ _ _ _ rfl (by decide) (by decide)) <|
  Chain.cons (stepAt_unary 3314 _ _ _ rfl (by decide)) <|
  Chain.cons (stepAt_unary 3315 _ _ _ rfl (by decide)) <|
  Chain.cons (stepAt_binary 3316 _ _ _ _ rfl (by decide) (by decide)) <|
  Chain.nil
theorem hostOps0_143_length : (hostOps0_143 : List (HloOp τ sig (Elt F))).length = 6 := rfl

set_option maxHeartbeats 4000000 in
/-- Operations 3289 … 3438 of the program, writing buffers 3317 … 3466. -/
theorem hostOps0_144_chain : Chain 3317 (hostOps0_144 : List (HloOp τ sig (Elt F))) :=
  Chain.cons (stepAt_nullary 3317 _ _ rfl) <|
  Chain.cons (stepAt_unary 3318 _ _ _ rfl (by decide)) <|
  Chain.cons (stepAt_binary 3319 _ _ _ _ rfl (by decide) (by decide)) <|
  Chain.cons (stepAt_nullary 3320 _ _ rfl) <|
  Chain.cons (stepAt_unary 3321 _ _ _ rfl (by decide)) <|
  Chain.cons (stepAt_binary 3322 _ _ _ _ rfl (by decide) (by decide)) <|
  Chain.cons (stepAt_ternary 3323 _ _ _ _ _ rfl (by decide) (by decide) (by decide)) <|
  Chain.cons (stepAt_nullary 3324 _ _ rfl) <|
  Chain.cons (stepAt_unary 3325 _ _ _ rfl (by decide)) <|
  Chain.cons (stepAt_binary 3326 _ _ _ _ rfl (by decide) (by decide)) <|
  Chain.cons (stepAt_nullary 3327 _ _ rfl) <|
  Chain.cons (stepAt_unary 3328 _ _ _ rfl (by decide)) <|
  Chain.cons (stepAt_binary 3329 _ _ _ _ rfl (by decide) (by decide)) <|
  Chain.cons (stepAt_ternary 3330 _ _ _ _ _ rfl (by decide) (by decide) (by decide)) <|
  Chain.cons (stepAt_unary 3331 _ _ _ rfl (by decide)) <|
  Chain.cons (stepAt_unary 3332 _ _ _ rfl (by decide)) <|
  Chain.cons (stepAt_binary 3333 _ _ _ _ rfl (by decide) (by decide)) <|
  Chain.cons (stepAt_binary 3334 _ _ _ _ rfl (by decide) (by decide)) <|
  Chain.cons (stepAt_nullary 3335 _ _ rfl) <|
  Chain.cons (stepAt_unary 3336 _ _ _ rfl (by decide)) <|
  Chain.cons (stepAt_binary 3337 _ _ _ _ rfl (by decide) (by decide)) <|
  Chain.cons (stepAt_nullary 3338 _ _ rfl) <|
  Chain.cons (stepAt_unary 3339 _ _ _ rfl (by decide)) <|
  Chain.cons (stepAt_binary 3340 _ _ _ _ rfl (by decide) (by decide)) <|
  Chain.cons (stepAt_ternary 3341 _ _ _ _ _ rfl (by decide) (by decide) (by decide)) <|
  Chain.cons (stepAt_nullary 3342 _ _ rfl) <|
  Chain.cons (stepAt_unary 3343 _ _ _ rfl (by decide)) <|
  Chain.cons (stepAt_binary 3344 _ _ _ _ rfl (by decide) (by decide)) <|
  Chain.cons (stepAt_nullary 3345 _ _ rfl) <|
  Chain.cons (stepAt_unary 3346 _ _ _ rfl (by decide)) <|
  Chain.cons (stepAt_binary 3347 _ _ _ _ rfl (by decide) (by decide)) <|
  Chain.cons (stepAt_ternary 3348 _ _ _ _ _ rfl (by decide) (by decide) (by decide)) <|
  Chain.cons (stepAt_unary 3349 _ _ _ rfl (by decide)) <|
  Chain.cons (stepAt_unary 3350 _ _ _ rfl (by decide)) <|
  Chain.cons (stepAt_binary 3351 _ _ _ _ rfl (by decide) (by decide)) <|
  Chain.cons (stepAt_binary 3352 _ _ _ _ rfl (by decide) (by decide)) <|
  Chain.cons (stepAt_nullary 3353 _ _ rfl) <|
  Chain.cons (stepAt_unary 3354 _ _ _ rfl (by decide)) <|
  Chain.cons (stepAt_binary 3355 _ _ _ _ rfl (by decide) (by decide)) <|
  Chain.cons (stepAt_nullary 3356 _ _ rfl) <|
  Chain.cons (stepAt_unary 3357 _ _ _ rfl (by decide)) <|
  Chain.cons (stepAt_binary 3358 _ _ _ _ rfl (by decide) (by decide)) <|
  Chain.cons (stepAt_ternary 3359 _ _ _ _ _ rfl (by decide) (by decide) (by decide)) <|
  Chain.cons (stepAt_nullary 3360 _ _ rfl) <|
  Chain.cons (stepAt_unary 3361 _ _ _ rfl (by decide)) <|
  Chain.cons (stepAt_binary 3362 _ _ _ _ rfl (by decide) (by decide)) <|
  Chain.cons (stepAt_nullary 3363 _ _ rfl) <|
  Chain.cons (stepAt_unary 3364 _ _ _ rfl (by decide)) <|
  Chain.cons (stepAt_binary 3365 _ _ _ _ rfl (by decide) (by decide)) <|
  Chain.cons (stepAt_ternary 3366 _ _ _ _ _ rfl (by decide) (by decide) (by decide)) <|
  Chain.cons (stepAt_unary 3367 _ _ _ rfl (by decide)) <|
  Chain.cons (stepAt_unary 3368 _ _ _ rfl (by decide)) <|
  Chain.cons (stepAt_binary 3369 _ _ _ _ rfl (by decide) (by decide)) <|
  Chain.cons (stepAt_binary 3370 _ _ _ _ rfl (by decide) (by decide)) <|
  Chain.cons (stepAt_nullary 3371 _ _ rfl) <|
  Chain.cons (stepAt_unary 3372 _ _ _ rfl (by decide)) <|
  Chain.cons (stepAt_binary 3373 _ _ _ _ rfl (by decide) (by decide)) <|
  Chain.cons (stepAt_nullary 3374 _ _ rfl) <|
  Chain.cons (stepAt_unary 3375 _ _ _ rfl (by decide)) <|
  Chain.cons (stepAt_binary 3376 _ _ _ _ rfl (by decide) (by decide)) <|
  Chain.cons (stepAt_ternary 3377 _ _ _ _ _ rfl (by decide) (by decide) (by decide)) <|
  Chain.cons (stepAt_nullary 3378 _ _ rfl) <|
  Chain.cons (stepAt_unary 3379 _ _ _ rfl (by decide)) <|
  Chain.cons (stepAt_binary 3380 _ _ _ _ rfl (by decide) (by decide)) <|
  Chain.cons (stepAt_nullary 3381 _ _ rfl) <|
  Chain.cons (stepAt_unary 3382 _ _ _ rfl (by decide)) <|
  Chain.cons (stepAt_binary 3383 _ _ _ _ rfl (by decide) (by decide)) <|
  Chain.cons (stepAt_ternary 3384 _ _ _ _ _ rfl (by decide) (by decide) (by decide)) <|
  Chain.cons (stepAt_unary 3385 _ _ _ rfl (by decide)) <|
  Chain.cons (stepAt_unary 3386 _ _ _ rfl (by decide)) <|
  Chain.cons (stepAt_binary 3387 _ _ _ _ rfl (by decide) (by decide)) <|
  Chain.cons (stepAt_binary 3388 _ _ _ _ rfl (by decide) (by decide)) <|
  Chain.cons (stepAt_nullary 3389 _ _ rfl) <|
  Chain.cons (stepAt_unary 3390 _ _ _ rfl (by decide)) <|
  Chain.cons (stepAt_binary 3391 _ _ _ _ rfl (by decide) (by decide)) <|
  Chain.cons (stepAt_unary 3392 _ _ _ rfl (by decide)) <|
  Chain.cons (stepAt_unary 3393 _ _ _ rfl (by decide)) <|
  Chain.cons (stepAt_binary 3394 _ _ _ _ rfl (by decide) (by decide)) <|
  Chain.cons (stepAt_nullary 3395 _ _ rfl) <|
  Chain.cons (stepAt_unary 3396 _ _ _ rfl (by decide)) <|
  Chain.cons (stepAt_binary 3397 _ _ _ _ rfl (by decide) (by decide)) <|
  Chain.cons (stepAt_unary 3398 _ _ _ rfl (by decide)) <|
  Chain.cons (stepAt_unary 3399 _ _ _ rfl (by decide)) <|
  Chain.cons (stepAt_binary 3400 _ _ _ _ rfl (by decide) (by decide)) <|
  Chain.cons (stepAt_unary 3401 _ _ _ rfl (by decide)) <|
  Chain.cons (stepAt_unary 3402 _ _ _ rfl (by decide)) <|
  Chain.cons (stepAt_binary 3403 _ _ _ _ rfl (by decide) (by decide)) <|
  Chain.cons (stepAt_nullary 3404 _ _ rfl) <|
  Chain.cons (stepAt_unary 3405 _ _ _ rfl (by decide)) <|
  Chain.cons (stepAt_binary 3406 _ _ _ _ rfl (by decide) (by decide)) <|
  Chain.cons (stepAt_unary 3407 _ _ _ rfl (by decide)) <|
  Chain.cons (stepAt_unary 3408 _ _ _ rfl (by decide)) <|
  Chain.cons (stepAt_binary 3409 _ _ _ _ rfl (by decide) (by decide)) <|
  Chain.cons (stepAt_binary 3410 _ _ _ _ rfl (by decide) (by decide)) <|
  Chain.cons (stepAt_nullary 3411 _ _ rfl) <|
  Chain.cons (stepAt_unary 3412 _ _ _ rfl (by decide)) <|
  Chain.cons (stepAt_binary 3413 _ _ _ _ rfl (by decide) (by decide)) <|
  Chain.cons (stepAt_unary 3414 _ _ _ rfl (by decide)) <|
  Chain.cons (stepAt_unary 3415 _ _ _ rfl (by decide)) <|
  Chain.cons (stepAt_binary 3416 _ _ _ _ rfl (by decide) (by decide)) <|
  Chain.cons (stepAt_unary 3417 _ _ _ rfl (by decide)) <|
  Chain.cons (stepAt_unary 3418 _ _ _ rfl (by decide)) <|
  Chain.cons (stepAt_binary 3419 _ _ _ _ rfl (by decide) (by decide)) <|
  Chain.cons (stepAt_binary 3420 _ _ _ _ rfl (by decide) (by decide)) <|
  Chain.cons (stepAt_unary 3421 _ _ _ rfl (by decide)) <|
  Chain.cons (stepAt_unary 3422 _ _ _ rfl (by decide)) <|
  Chain.cons (stepAt_binary 3423 _ _ _ _ rfl (by decide) (by decide)) <|
  Chain.cons (stepAt_unary 3424 _ _ _ rfl (by decide)) <|
  Chain.cons (stepAt_unary 3425 _ _ _ rfl (by decide)) <|
  Chain.cons (stepAt_binary 3426 _ _ _ _ rfl (by decide) (by decide)) <|
  Chain.cons (stepAt_binary 3427 _ _ _ _ rfl (by decide) (by decide)) <|
  Chain.cons (stepAt_unary 3428 _ _ _ rfl (by decide)) <|
  Chain.cons (stepAt_nullary 3429 _ _ rfl) <|
  Chain.cons (stepAt_unary 3430 _ _ _ rfl (by decide)) <|
  Chain.cons (stepAt_binary 3431 _ _ _ _ rfl (by decide) (by decide)) <|
  Chain.cons (stepAt_nullary 3432 _ _ rfl) <|
  Chain.cons (stepAt_unary 3433 _ _ _ rfl (by decide)) <|
  Chain.cons (stepAt_binary 3434 _ _ _ _ rfl (by decide) (by decide)) <|
  Chain.cons (stepAt_ternary 3435 _ _ _ _ _ rfl (by decide) (by decide) (by decide)) <|
  Chain.cons (stepAt_unary 3436 _ _ _ rfl (by decide)) <|
  Chain.cons (stepAt_binary 3437 _ _ _ _ rfl (by decide) (by decide)) <|
  Chain.cons (stepAt_unary 3438 _ _ _ rfl (by decide)) <|
  Chain.cons (stepAt_reshape 3439 _ _ _ _ rfl (by decide)) <|
  Chain.cons (stepAt_nullary 3440 _ _ rfl) <|
  Chain.cons (stepAt_unary 3441 _ _ _ rfl (by decide)) <|
  Chain.cons (stepAt_binary 3442 _ _ _ _ rfl (by decide) (by decide)) <|
  Chain.cons (stepAt_nullary 3443 _ _ rfl) <|
  Chain.cons (stepAt_unary 3444 _ _ _ rfl (by decide)) <|
  Chain.cons (stepAt_binary 3445 _ _ _ _ rfl (by decide) (by decide)) <|
  Chain.cons (stepAt_nullary 3446 _ _ rfl) <|
  Chain.cons (stepAt_unary 3447 _ _ _ rfl (by decide)) <|
  Chain.cons (stepAt_binary 3448 _ _ _ _ rfl (by decide) (by decide)) <|
  Chain.cons (stepAt_unary 3449 _ _ _ rfl (by decide)) <|
  Chain.cons (stepAt_reshape 3450 _ _ _ _ rfl (by decide)) <|
  Chain.cons (stepAt_nullary 3451 _ _ rfl) <|
  Chain.cons (stepAt_unary 3452 _ _ _ rfl (by decide)) <|
  Chain.cons (stepAt_binary 3453 _ _ _ _ rfl (by decide) (by decide)) <|
  Chain.cons (stepAt_nullary 3454 _ _ rfl) <|
  Chain.cons (stepAt_unary 3455 _ _ _ rfl (by decide)) <|
  Chain.cons (stepAt_binary 3456 _ _ _ _ rfl (by decide) (by decide)) <|
  Chain.cons (stepAt_nullary 3457 _ _ rfl) <|
  Chain.cons (stepAt_unary 3458 _ _ _ rfl (by decide)) <|
  Chain.cons (stepAt_binary 3459 _ _ _ _ rfl (by decide) (by decide)) <|
  Chain.cons (stepAt_unary 3460 _ _ _ rfl (by decide)) <|
  Chain.cons (stepAt_unary 3461 _ _ _ rfl (by decide)) <|
  Chain.cons (stepAt_binary 3462 _ _ _ _ rfl (by decide) (by decide)) <|
  Chain.cons (stepAt_binary 3463 _ _ _ _ rfl (by decide) (by decide)) <|
  Chain.cons (stepAt_unary 3464 _ _ _ rfl (by decide)) <|
  Chain.cons (stepAt_nullary 3465 _ _ rfl) <|
  Chain.cons (stepAt_nullary 3466 _ _ rfl) <|
  Chain.nil
theorem hostOps0_144_length : (hostOps0_144 : List (HloOp τ sig (Elt F))).length = 150 := rfl

set_option maxHeartbeats 4000000 in
/-- Operations 3439 … 3444 of the program, writing buffers 3467 … 3472. -/
theorem hostOps0_145_chain : Chain 3467 (hostOps0_145 : List (HloOp τ sig (Elt F))) :=
  Chain.cons (stepAt_unary 3467 _ _ _ rfl (by decide)) <|
  Chain.cons (stepAt_unary 3468 _ _ _ rfl (by decide)) <|
  Chain.cons (stepAt_binary 3469 _ _ _ _ rfl (by decide) (by decide)) <|
  Chain.cons (stepAt_unary 3470 _ _ _ rfl (by decide)) <|
  Chain.cons (stepAt_unary 3471 _ _ _ rfl (by decide)) <|
  Chain.cons (stepAt_binary 3472 _ _ _ _ rfl (by decide) (by decide)) <|
  Chain.nil
theorem hostOps0_145_length : (hostOps0_145 : List (HloOp τ sig (Elt F))).length = 6 := rfl

set_option maxHeartbeats 4000000 in
/-- Operations 3445 … 3449 of the program, writing buffers 3473 … 3477. -/
theorem hostOps0_146_chain : Chain 3473 (hostOps0_146 : List (HloOp τ sig (Elt F))) :=
  Chain.cons (stepAt_nullary 3473 _ _ rfl) <|
  Chain.cons (stepAt_unary 3474 _ _ _ rfl (by decide)) <|
  Chain.cons (stepAt_binary 3475 _ _ _ _ rfl (by decide) (by decide)) <|
  Chain.cons (stepAt_nullary 3476 _ _ rfl) <|
  Chain.cons (stepAt_nullary 3477 _ _ rfl) <|
  Chain.nil
theorem hostOps0_146_length : (hostOps0_146 : List (HloOp τ sig (Elt F))).length = 5 := rfl

set_option maxHeartbeats 4000000 in
/-- Operations 3450 … 3455 of the program, writing buffers 3478 … 3483. -/
theorem hostOps0_147_chain : Chain 3478 (hostOps0_147 : List (HloOp τ sig (Elt F))) :=
  Chain.cons (stepAt_unary 3478 _ _ _ rfl (by decide)) <|
  Chain.cons (stepAt_unary 3479 _ _ _ rfl (by decide)) <|
  Chain.cons (stepAt_binary 3480 _ _ _ _ rfl (by decide) (by decide)) <|
  Chain.cons (stepAt_unary 3481 _ _ _ rfl (by decide)) <|
  Chain.cons (stepAt_unary 3482 _ _ _ rfl (by decide)) <|
  Chain.cons (stepAt_binary 3483 _ _ _ _ rfl (by decide) (by decide)) <|
  Chain.nil
theorem hostOps0_147_length : (hostOps0_147 : List (HloOp τ sig (Elt F))).length = 6 := rfl

set_option maxHeartbeats 4000000 in
/-- Operations 3456 … 3458 of the program, writing buffers 3484 … 3486. -/
theorem hostOps0_148_chain : Chain 3484 (hostOps0_148 : List (HloOp τ sig (Elt F))) :=
  Chain.cons (stepAt_unary 3484 _ _ _ rfl (by decide)) <|
  Chain.cons (stepAt_nullary 3485 _ _ rfl) <|
  Chain.cons (stepAt_nullary 3486 _ _ rfl) <|
  Chain.nil
theorem hostOps0_148_length : (hostOps0_148 : List (HloOp τ sig (Elt F))).length = 3 := rfl

set_option maxHeartbeats 4000000 in
/-- Operations 3459 … 3464 of the program, writing buffers 3487 … 3492. -/
theorem hostOps0_149_chain : Chain 3487 (hostOps0_149 : List (HloOp τ sig (Elt F))) :=
  Chain.cons (stepAt_unary 3487 _ _ _ rfl (by decide)) <|
  Chain.cons (stepAt_unary 3488 _ _ _ rfl (by decide)) <|
  Chain.cons (stepAt_binary 3489 _ _ _ _ rfl (by decide) (by decide)) <|
  Chain.cons (stepAt_unary 3490 _ _ _ rfl (by decide)) <|
  Chain.cons (stepAt_unary 3491 _ _ _ rfl (by decide)) <|
  Chain.cons (stepAt_binary 3492 _ _ _ _ rfl (by decide) (by decide)) <|
  Chain.nil
theorem hostOps0_149_length : (hostOps0_149 : List (HloOp τ sig (Elt F))).length = 6 := rfl

set_option maxHeartbeats 4000000 in
/-- Operations 3465 … 3469 of the program, writing buffers 3493 … 3497. -/
theorem hostOps0_150_chain : Chain 3493 (hostOps0_150 : List (HloOp τ sig (Elt F))) :=
  Chain.cons (stepAt_nullary 3493 _ _ rfl) <|
  Chain.cons (stepAt_unary 3494 _ _ _ rfl (by decide)) <|
  Chain.cons (stepAt_binary 3495 _ _ _ _ rfl (by decide) (by decide)) <|
  Chain.cons (stepAt_nullary 3496 _ _ rfl) <|
  Chain.cons (stepAt_nullary 3497 _ _ rfl) <|
  Chain.nil
theorem hostOps0_150_length : (hostOps0_150 : List (HloOp τ sig (Elt F))).length = 5 := rfl

set_option maxHeartbeats 4000000 in
/-- Operations 3470 … 3475 of the program, writing buffers 3498 … 3503. -/
theorem hostOps0_151_chain : Chain 3498 (hostOps0_151 : List (HloOp τ sig (Elt F))) :=
  Chain.cons (stepAt_unary 3498 _ _ _ rfl (by decide)) <|
  Chain.cons (stepAt_unary 3499 _ _ _ rfl (by decide)) <|
  Chain.cons (stepAt_binary 3500 _ _ _ _ rfl (by decide) (by decide)) <|
  Chain.cons (stepAt_unary 3501 _ _ _ rfl (by decide)) <|
  Chain.cons (stepAt_unary 3502 _ _ _ rfl (by decide)) <|
  Chain.cons (stepAt_binary 3503 _ _ _ _ rfl (by decide) (by decide)) <|
  Chain.nil
theorem hostOps0_151_length : (hostOps0_151 : List (HloOp τ sig (Elt F))).length = 6 := rfl

set_option maxHeartbeats 4000000 in
/-- Operations 3476 … 3625 of the program, writing buffers 3504 … 3653. -/
theorem hostOps0_152_chain : Chain 3504 (hostOps0_152 : List (HloOp τ sig (Elt F))) :=
  Chain.cons (stepAt_nullary 3504 _ _ rfl) <|
  Chain.cons (stepAt_unary 3505 _ _ _ rfl (by decide)) <|
  Chain.cons (stepAt_binary 3506 _ _ _ _ rfl (by decide) (by decide)) <|
  Chain.cons (stepAt_nullary 3507 _ _ rfl) <|
  Chain.cons (stepAt_unary 3508 _ _ _ rfl (by decide)) <|
  Chain.cons (stepAt_binary 3509 _ _ _ _ rfl (by decide) (by decide)) <|
  Chain.cons (stepAt_ternary 3510 _ _ _ _ _ rfl (by decide) (by decide) (by decide)) <|
  Chain.cons (stepAt_nullary 3511 _ _ rfl) <|
  Chain.cons (stepAt_unary 3512 _ _ _ rfl (by decide)) <|
  Chain.cons (stepAt_binary 3513 _ _ _ _ rfl (by decide) (by decide)) <|
  Chain.cons (stepAt_nullary 3514 _ _ rfl) <|
  Chain.cons (stepAt_unary 3515 _ _ _ rfl (by decide)) <|
  Chain.cons (stepAt_binary 3516 _ _ _ _ rfl (by decide) (by decide)) <|
  Chain.cons (stepAt_ternary 3517 _ _ _ _ _ rfl (by decide) (by decide) (by decide)) <|
  Chain.cons (stepAt_unary 3518 _ _ _ rfl (by decide)) <|
  Chain.cons (stepAt_unary 3519 _ _ _ rfl (by decide)) <|
  Chain.cons (stepAt_binary 3520 _ _ _ _ rfl (by decide) (by decide)) <|
  Chain.cons (stepAt_binary 3521 _ _ _ _ rfl (by decide) (by decide)) <|
  Chain.cons (stepAt_nullary 3522 _ _ rfl) <|
  Chain.cons (stepAt_unary 3523 _ _ _ rfl (by decide)) <|
  Chain.cons (stepAt_binary 3524 _ _ _ _ rfl (by decide) (by decide)) <|
  Chain.cons (stepAt_nullary 3525 _ _ rfl) <|
  Chain.cons (stepAt_unary 3526 _ _ _ rfl (by decide)) <|
  Chain.cons (stepAt_binary 3527 _ _ _ _ rfl (by decide) (by decide)) <|
  Chain.cons (stepAt_ternary 3528 _ _ _ _ _ rfl (by decide) (by decide) (by decide)) <|
  Chain.cons (stepAt_nullary 3529 _ _ rfl) <|
  Chain.cons (stepAt_unary 3530 _ _ _ rfl (by decide)) <|
  Chain.cons (stepAt_binary 3531 _ _ _ _ rfl (by decide) (by decide)) <|
  Chain.cons (stepAt_nullary 3532 _ _ rfl) <|
  Chain.cons (stepAt_unary 3533 _ _ _ rfl (by decide)) <|
  Chain.cons (stepAt_binary 3534 _ _ _ _ rfl (by decide) (by decide)) <|
  Chain.cons (stepAt_ternary 3535 _ _ _ _ _ rfl (by decide) (by decide) (by decide)) <|
  Chain.cons (stepAt_unary 3536 _ _ _ rfl (by decide)) <|
  Chain.cons (stepAt_unary 3537 _ _ _ rfl (by decide)) <|
  Chain.cons (stepAt_binary 3538 _ _ _ _ rfl (by decide) (by decide)) <|
  Chain.cons (stepAt_binary 3539 _ _ _ _ rfl (by decide) (by decide)) <|
  Chain.cons (stepAt_nullary 3540 _ _ rfl) <|
  Chain.cons (stepAt_unary 3541 _ _ _ rfl (by decide)) <|
  Chain.cons (stepAt_binary 3542 _ _ _ _ rfl (by decide) (by decide)) <|
  Chain.cons (stepAt_nullary 3543 _ _ rfl) <|
  Chain.cons (stepAt_unary 3544 _ _ _ rfl (by decide)) <|
  Chain.cons (stepAt_binary 3545 _ _ _ _ rfl (by decide) (by decide)) <|
  Chain.cons (stepAt_ternary 3546 _ _ _ _ _ rfl (by decide) (by decide) (by decide)) <|
  Chain.cons (stepAt_nullary 3547 _ _ rfl) <|
  Chain.cons (stepAt_unary 3548 _ _ _ rfl (by decide)) <|
  Chain.cons (stepAt_binary 3549 _ _ _ _ rfl (by decide) (by decide)) <|
  Chain.cons (stepAt_nullary 3550 _ _ rfl) <|
  Chain.cons (stepAt_unary 3551 _ _ _ rfl (by decide)) <|
  Chain.cons (stepAt_binary 3552 _ _ _ _ rfl (by decide) (by decide)) <|
  Chain.cons (stepAt_ternary 3553 _ _ _ _ _ rfl (by decide) (by decide) (by decide)) <|
  Chain.cons (stepAt_unary 3554 _ _ _ rfl (by decide)) <|
  Chain.cons (stepAt_unary 3555 _ _ _ rfl (by decide)) <|
  Chain.cons (stepAt_binary 3556 _ _ _ _ rfl (by decide) (by decide)) <|
  Chain.cons (stepAt_binary 3557 _ _ _ _ rfl (by decide) (by decide)) <|
  Chain.cons (stepAt_nullary 3558 _ _ rfl) <|
  Chain.cons (stepAt_unary 3559 _ _ _ rfl (by decide)) <|
  Chain.cons (stepAt_binary 3560 _ _ _ _ rfl (by decide) (by decide)) <|
  Chain.cons (stepAt_nullary 3561 _ _ rfl) <|
  Chain.cons (stepAt_unary 3562 _ _ _ rfl (by decide)) <|
  Chain.cons (stepAt_binary 3563 _ _ _ _ rfl (by decide) (by decide)) <|
  Chain.cons (stepAt_ternary 3564 _ _ _ _ _ rfl (by decide) (by decide) (by decide)) <|
  Chain.cons (stepAt_nullary 3565 _ _ rfl) <|
  Chain.cons (stepAt_unary 3566 _ _ _ rfl (by decide)) <|
  Chain.cons (stepAt_binary 3567 _ _ _ _ rfl (by decide) (by decide)) <|
  Chain.cons (stepAt_nullary 3568 _ _ rfl) <|
  Chain.cons (stepAt_unary 3569 _ _ _ rfl (by decide)) <|
  Chain.cons (stepAt_binary 3570 _ _ _ _ rfl (by decide) (by decide)) <|
  Chain.cons (stepAt_ternary 3571 _ _ _ _ _ rfl (by decide) (by decide) (by decide)) <|
  Chain.cons (stepAt_unary 3572 _ _ _ rfl (by decide)) <|
  Chain.cons (stepAt_unary 3573 _ _ _ rfl (by decide)) <|
  Chain.cons (stepAt_binary 3574 _ _ _ _ rfl (by decide) (by decide)) <|
  Chain.cons (stepAt_binary 3575 _ _ _ _ rfl (by decide) (by decide)) <|
  Chain.cons (stepAt_nullary 3576 _ _ rfl) <|
  Chain.cons (stepAt_unary 3577 _ _ _ rfl (by decide)) <|
  Chain.cons (stepAt_binary 3578 _ _ _ _ rfl (by decide) (by decide)) <|
  Chain.cons (stepAt_unary 3579 _ _ _ rfl (by decide)) <|
  Chain.cons (stepAt_unary 3580 _ _ _ rfl (by decide)) <|
  Chain.cons (stepAt_binary 3581 _ _ _ _ rfl (by decide) (by decide)) <|
  Chain.cons (stepAt_nullary 3582 _ _ rfl) <|
  Chain.cons (stepAt_unary 3583 _ _ _ rfl (by decide)) <|
  Chain.cons (stepAt_binary 3584 _ _ _ _ rfl (by decide) (by decide)) <|
  Chain.cons (stepAt_unary 3585 _ _ _ rfl (by decide)) <|
  Chain.cons (stepAt_unary 3586 _ _ _ rfl (by decide)) <|
  Chain.cons (stepAt_binary 3587 _ _ _ _ rfl (by decide) (by decide)) <|
  Chain.cons (stepAt_unary 3588 _ _ _ rfl (by decide)) <|
  Chain.cons (stepAt_unary 3589 _ _ _ rfl (by decide)) <|
  Chain.cons (stepAt_binary 3590 _ _ _ _ rfl (by decide) (by decide)) <|
  Chain.cons (stepAt_nullary 3591 _ _ rfl) <|
  Chain.cons (stepAt_unary 3592 _ _ _ rfl (by decide)) <|
  Chain.cons (stepAt_binary 3593 _ _ _ _ rfl (by decide) (by decide)) <|
  Chain.cons (stepAt_unary 3594 _ _ _ rfl (by decide)) <|
  Chain.cons (stepAt_unary 3595 _ _ _ rfl (by decide)) <|
  Chain.cons (stepAt_binary 3596 _ _ _ _ rfl (by decide) (by decide)) <|
  Chain.cons (stepAt_binary 3597 _ _ _ _ rfl (by decide) (by decide)) <|
  Chain.cons (stepAt_nullary 3598 _ _ rfl) <|
  Chain.cons (stepAt_unary 3599 _ _ _ rfl (by decide)) <|
  Chain.cons (stepAt_binary 3600 _ _ _ _ rfl (by decide) (by decide)) <|
  Chain.cons (stepAt_unary 3601 _ _ _ rfl (by decide)) <|
  Chain.cons (stepAt_unary 3602 _ _ _ rfl (by decide)) <|
  Chain.cons (stepAt_binary 3603 _ _ _ _ rfl (by decide) (by decide)) <|
  Chain.cons (stepAt_unary 3604 _ _ _ rfl (by decide)) <|
  Chain.cons (stepAt_unary 3605 _ _ _ rfl (by decide)) <|
  Chain.cons (stepAt_binary 3606 _ _ _ _ rfl (by decide) (by decide)) <|
  Chain.cons (stepAt_binary 3607 _ _ _ _ rfl (by decide) (by decide)) <|
  Chain.cons (stepAt_unary 3608 _ _ _ rfl (by decide)) <|
  Chain.cons (stepAt_unary 3609 _ _ _ rfl (by decide)) <|
  Chain.cons (stepAt_binary 3610 _ _ _ _ rfl (by decide) (by decide)) <|
  Chain.cons (stepAt_unary 3611 _ _ _ rfl (by decide)) <|
  Chain.cons (stepAt_unary 3612 _ _ _ rfl (by decide)) <|
  Chain.cons (stepAt_binary 3613 _ _ _ _ rfl (by decide) (by decide)) <|
  Chain.cons (stepAt_binary 3614 _ _ _ _ rfl (by decide) (by decide)) <|
  Chain.cons (stepAt_unary 3615 _ _ _ rfl (by decide)) <|
  Chain.cons (stepAt_nullary 3616 _ _ rfl) <|
  Chain.cons (stepAt_unary 3617 _ _ _ rfl (by decide)) <|
  Chain.cons (stepAt_binary 3618 _ _ _ _ rfl (by decide) (by decide)) <|
  Chain.cons (stepAt_nullary 3619 _ _ rfl) <|
  Chain.cons (stepAt_unary 3620 _ _ _ rfl (by decide)) <|
  Chain.cons (stepAt_binary 3621 _ _ _ _ rfl (by decide) (by decide)) <|
  Chain.cons (stepAt_ternary 3622 _ _ _ _ _ rfl (by decide) (by decide) (by decide)) <|
  Chain.cons (stepAt_unary 3623 _ _ _ rfl (by decide)) <|
  Chain.cons (stepAt_binary 3624 _ _ _ _ rfl (by decide) (by decide)) <|
  Chain.cons (stepAt_unary 3625 _ _ _ rfl (by decide)) <|
  Chain.cons (stepAt_reshape 3626 _ _ _ _ rfl (by decide)) <|
  Chain.cons (stepAt_nullary 3627 _ _ rfl) <|
  Chain.cons (stepAt_unary 3628 _ _ _ rfl (by decide)) <|
  Chain.cons (stepAt_binary 3629 _ _ _ _ rfl (by decide) (by decide)) <|
  Chain.cons (stepAt_nullary 3630 _ _ rfl) <|
  Chain.cons (stepAt_unary 3631 _ _ _ rfl (by decide)) <|
  Chain.cons (stepAt_binary 3632 _ _ _ _ rfl (by decide) (by decide)) <|
  Chain.cons (stepAt_nullary 3633 _ _ rfl) <|
  Chain.cons (stepAt_unary 3634 _ _ _ rfl (by decide)) <|
  Chain.cons (stepAt_binary 3635 _ _ _ _ rfl (by decide) (by decide)) <|
  Chain.cons (stepAt_unary 3636 _ _ _ rfl (by decide)) <|
  Chain.cons (stepAt_reshape 3637 _ _ _ _ rfl (by decide)) <|
  Chain.cons (stepAt_nullary 3638 _ _ rfl) <|
  Chain.cons (stepAt_unary 3639 _ _ _ rfl (by decide)) <|
  Chain.cons (stepAt_binary 3640 _ _ _ _ rfl (by decide) (by decide)) <|
  Chain.cons (stepAt_nullary 3641 _ _ rfl) <|
  Chain.cons (stepAt_unary 3642 _ _ _ rfl (by decide)) <|
  Chain.cons (stepAt_binary 3643 _ _ _ _ rfl (by decide) (by decide)) <|
  Chain.cons (stepAt_nullary 3644 _ _ rfl) <|
  Chain.cons (stepAt_unary 3645 _ _ _ rfl (by decide)) <|
  Chain.cons (stepAt_binary 3646 _ _ _ _ rfl (by decide) (by decide)) <|
  Chain.cons (stepAt_unary 3647 _ _ _ rfl (by decide)) <|
  Chain.cons (stepAt_unary 3648 _ _ _ rfl (by decide)) <|
  Chain.cons (stepAt_binary 3649 _ _ _ _ rfl (by decide) (by decide)) <|
  Chain.cons (stepAt_binary 3650 _ _ _ _ rfl (by decide) (by decide)) <|
  Chain.cons (stepAt_unary 3651 _ _ _ rfl (by decide)) <|
  Chain.cons (stepAt_nullary 3652 _ _ rfl) <|
  Chain.cons (stepAt_nullary 3653 _ _ rfl) <|
  Chain.nil
theorem hostOps0_152_length : (hostOps0_152 : List (HloOp τ sig (Elt F))).length = 150 := rfl

set_option maxHeartbeats 4000000 in
/-- Operations 3626 … 3631 of the program, writing buffers 3654 … 3659. -/
theorem hostOps0_153_chain : Chain 3654 (hostOps0_153 : List (HloOp τ sig (Elt F))) :=
  Chain.cons (stepAt_unary 3654 _ _ _ rfl (by decide)) <|
  Chain.cons (stepAt_unary 3655 _ _ _ rfl (by decide)) <|
  Chain.cons (stepAt_binary 3656 _ _ _ _ rfl (by decide) (by decide)) <|
  Chain.cons (stepAt_unary 3657 _ _ _ rfl (by decide)) <|
  Chain.cons (stepAt_unary 3658 _ _ _ rfl (by decide)) <|
  Chain.cons (stepAt_binary 3659 _ _ _ _ rfl (by decide) (by decide)) <|
  Chain.nil
theorem hostOps0_153_length : (hostOps0_153 : List (HloOp τ sig (Elt F))).length = 6 := rfl

set_option maxHeartbeats 4000000 in
/-- Operations 3632 … 3636 of the program, writing buffers 3660 … 3664. -/
theorem hostOps0_154_chain : Chain 3660 (hostOps0_154 : List (HloOp τ sig (Elt F))) :=
  Chain.cons (stepAt_nullary 3660 _ _ rfl) <|
  Chain.cons (stepAt_unary 3661 _ _ _ rfl (by decide)) <|
  Chain.cons (stepAt_binary 3662 _ _ _ _ rfl (by decide) (by decide)) <|
  Chain.cons (stepAt_nullary 3663 _ _ rfl) <|
  Chain.cons (stepAt_nullary 3664 _ _ rfl) <|
  Chain.nil
theorem hostOps0_154_length : (hostOps0_154 : List (HloOp τ sig (Elt F))).length = 5 := rfl

set_option maxHeartbeats 4000000 in
/-- Operations 3637 … 3642 of the program, writing buffers 3665 … 3670. -/
theorem hostOps0_155_chain : Chain 3665 (hostOps0_155 : List (HloOp τ sig (Elt F))) :=
  Chain.cons (stepAt_unary 3665 _ _ _ rfl (by decide)) <|
  Chain.cons (stepAt_unary 3666 _ _ _ rfl (by decide)) <|
  Chain.cons (stepAt_binary 3667 _ _ _ _ rfl (by decide) (by decide)) <|
  Chain.cons (stepAt_unary 3668 _ _ _ rfl (by decide)) <|
  Chain.cons (stepAt_unary 3669 _ _ _ rfl (by decide)) <|
  Chain.cons (stepAt_binary 3670 _ _ _ _ rfl (by decide) (by decide)) <|
  Chain.nil
theorem hostOps0_155_length : (hostOps0_155 : List (HloOp τ sig (Elt F))).length = 6 := rfl

set_option maxHeartbeats 4000000 in
/-- Operations 3643 … 3645 of the program, writing buffers 3671 … 3673. -/
theorem hostOps0_156_chain : Chain 3671 (hostOps0_156 : List (HloOp τ sig (Elt F))) :=
  Chain.cons (stepAt_unary 3671 _ _ _ rfl (by decide)) <|
  Chain.cons (stepAt_nullary 3672 _ _ rfl) <|
  Chain.cons (stepAt_nullary 3673 _ _ rfl) <|
  Chain.nil
theorem hostOps0_156_length : (hostOps0_156 : List (HloOp τ sig (Elt F))).length = 3 := rfl

set_option maxHeartbeats 4000000 in
/-- Operations 3646 … 3651 of the program, writing buffers 3674 … 3679. -/
theorem hostOps0_157_chain : Chain 3674 (hostOps0_157 : List (HloOp τ sig (Elt F))) :=
  Chain.cons (stepAt_unary 3674 _ _ _ rfl (by decide)) <|
  Chain.cons (stepAt_unary 3675 _ _ _ rfl (by decide)) <|
  Chain.cons (stepAt_binary 3676 _ _ _ _ rfl (by decide) (by decide)) <|
  Chain.cons (stepAt_unary 3677 _ _ _ rfl (by decide)) <|
  Chain.cons (stepAt_unary 3678 _ _ _ rfl (by decide)) <|
  Chain.cons (stepAt_binary 3679 _ _ _ _ rfl (by decide) (by decide)) <|
  Chain.nil
theorem hostOps0_157_length : (hostOps0_157 : List (HloOp τ sig (Elt F))).length = 6 := rfl

set_option maxHeartbeats 4000000 in
/-- Operations 3652 … 3656 of the program, writing buffers 3680 … 3684. -/
theorem hostOps0_158_chain : Chain 3680 (hostOps0_158 : List (HloOp τ sig (Elt F))) :=
  Chain.cons (stepAt_nullary 3680 _ _ rfl) <|
  Chain.cons (stepAt_unary 3681 _ _ _ rfl (by decide)) <|
  Chain.cons (stepAt_binary 3682 _ _ _ _ rfl (by decide) (by decide)) <|
  Chain.cons (stepAt_nullary 3683 _ _ rfl) <|
  Chain.cons (stepAt_nullary 3684 _ _ rfl) <|
  Chain.nil
theorem hostOps0_158_length : (hostOps0_158 : List (HloOp τ sig (Elt F))).length = 5 := rfl

set_option maxHeartbeats 4000000 in
/-- Operations 3657 … 3662 of the program, writing buffers 3685 … 3690. -/
theorem hostOps0_159_chain : Chain 3685 (hostOps0_159 : List (HloOp τ sig (Elt F))) :=
  Chain.cons (stepAt_unary 3685 _ _ _ rfl (by decide)) <|
  Chain.cons (stepAt_unary 3686 _ _ _ rfl (by decide)) <|
  Chain.cons (stepAt_binary 3687 _ _ _ _ rfl (by decide) (by decide)) <|
  Chain.cons (stepAt_unary 3688 _ _ _ rfl (by decide)) <|
  Chain.cons (stepAt_unary 3689 _ _ _ rfl (by decide)) <|
  Chain.cons (stepAt_binary 3690 _ _ _ _ rfl (by decide) (by decide)) <|
  Chain.nil
theorem hostOps0_159_length : (hostOps0_159 : List (HloOp τ sig (Elt F))).length = 6 := rfl

end Cert.Kernel.Stretch

end
-- ==== Proof.KBStretch4.lean ====
/- The stretches of @main's host operations before the kernel's region are single-assignment lines: the operations of a
   stretch write the consecutive buffers numbered from the stated bound, each reading only buffers of smaller numbers. -/
import proofs.«133805_j10187662426200_2_alg».proof.Proof.Gen.Kernel.Launch
import proofs.«133805_j10187662426200_2_alg».proof.Proof.HostChain

set_option maxRecDepth 65536

noncomputable section

namespace Cert.Kernel.Stretch

open Cert.Kernel Cert.Kernel.Gen Idealize.ShloMosaic Idealize.ShloMosaic.TcCoe Idealize.SL.Sem Idealize.ShloMosaic.StableHlo Cert.HostFold

variable {F : FTy → Type} [FloatOps F]

set_option maxHeartbeats 4000000 in
/-- Operations 3663 … 3812 of the program, writing buffers 3691 … 3840. -/
theorem hostOps0_160_chain : Chain 3691 (hostOps0_160 : List (HloOp τ sig (Elt F))) :=
  Chain.cons (stepAt_nullary 3691 _ _ rfl) <|
  Chain.cons (stepAt_unary 3692 _ _ _ rfl (by decide)) <|
  Chain.cons (stepAt_binary 3693 _ _ _ _ rfl (by decide) (by decide)) <|
  Chain.cons (stepAt_nullary 3694 _ _ rfl) <|
  Chain.cons (stepAt_unary 3695 _ _ _ rfl (by decide)) <|
  Chain.cons (stepAt_binary 3696 _ _ _ _ rfl (by decide) (by decide)) <|
  Chain.cons (stepAt_ternary 3697 _ _ _ _ _ rfl (by decide) (by decide) (by decide)) <|
  Chain.cons (stepAt_nullary 3698 _ _ rfl) <|
  Chain.cons (stepAt_unary 3699 _ _ _ rfl (by decide)) <|
  Chain.cons (stepAt_binary 3700 _ _ _ _ rfl (by decide) (by decide)) <|
  Chain.cons (stepAt_nullary 3701 _ _ rfl) <|
  Chain.cons (stepAt_unary 3702 _ _ _ rfl (by decide)) <|
  Chain.cons (stepAt_binary 3703 _ _ _ _ rfl (by decide) (by decide)) <|
  Chain.cons (stepAt_ternary 3704 _ _ _ _ _ rfl (by decide) (by decide) (by decide)) <|
  Chain.cons (stepAt_unary 3705 _ _ _ rfl (by decide)) <|
  Chain.cons (stepAt_unary 3706 _ _ _ rfl (by decide)) <|
  Chain.cons (stepAt_binary 3707 _ _ _ _ rfl (by decide) (by decide)) <|
  Chain.cons (stepAt_binary 3708 _ _ _ _ rfl (by decide) (by decide)) <|
  Chain.cons (stepAt_nullary 3709 _ _ rfl) <|
  Chain.cons (stepAt_unary 3710 _ _ _ rfl (by decide)) <|
  Chain.cons (stepAt_binary 3711 _ _ _ _ rfl (by decide) (by decide)) <|
  Chain.cons (stepAt_nullary 3712 _ _ rfl) <|
  Chain.cons (stepAt_unary 3713 _ _ _ rfl (by decide)) <|
  Chain.cons (stepAt_binary 3714 _ _ _ _ rfl (by decide) (by decide)) <|
  Chain.cons (stepAt_ternary 3715 _ _ _ _ _ rfl (by decide) (by decide) (by decide)) <|
  Chain.cons (stepAt_nullary 3716 _ _ rfl) <|
  Chain.cons (stepAt_unary 3717 _ _ _ rfl (by decide)) <|
  Chain.cons (stepAt_binary 3718 _ _ _ _ rfl (by decide) (by decide)) <|
  Chain.cons (stepAt_nullary 3719 _ _ rfl) <|
  Chain.cons (stepAt_unary 3720 _ _ _ rfl (by decide)) <|
  Chain.cons (stepAt_binary 3721 _ _ _ _ rfl (by decide) (by decide)) <|
  Chain.cons (stepAt_ternary 3722 _ _ _ _ _ rfl (by decide) (by decide) (by decide)) <|
  Chain.cons (stepAt_unary 3723 _ _ _ rfl (by decide)) <|
  Chain.cons (stepAt_unary 3724 _ _ _ rfl (by decide)) <|
  Chain.cons (stepAt_binary 3725 _ _ _ _ rfl (by decide) (by decide)) <|
  Chain.cons (stepAt_binary 3726 _ _ _ _ rfl (by decide) (by decide)) <|
  Chain.cons (stepAt_nullary 3727 _ _ rfl) <|
  Chain.cons (stepAt_unary 3728 _ _ _ rfl (by decide)) <|
  Chain.cons (stepAt_binary 3729 _ _ _ _ rfl (by decide) (by decide)) <|
  Chain.cons (stepAt_nullary 3730 _ _ rfl) <|
  Chain.cons (stepAt_unary 3731 _ _ _ rfl (by decide)) <|
  Chain.cons (stepAt_binary 3732 _ _ _ _ rfl (by decide) (by decide)) <|
  Chain.cons (stepAt_ternary 3733 _ _ _ _ _ rfl (by decide) (by decide) (by decide)) <|
  Chain.cons (stepAt_nullary 3734 _ _ rfl) <|
  Chain.cons (stepAt_unary 3735 _ _ _ rfl (by decide)) <|
  Chain.cons (stepAt_binary 3736 _ _ _ _ rfl (by decide) (by decide)) <|
  Chain.cons (stepAt_nullary 3737 _ _ rfl) <|
  Chain.cons (stepAt_unary 3738 _ _ _ rfl (by decide)) <|
  Chain.cons (stepAt_binary 3739 _ _ _ _ rfl (by decide) (by decide)) <|
  Chain.cons (stepAt_ternary 3740 _ _ _ _ _ rfl (by decide) (by decide) (by decide)) <|
  Chain.cons (stepAt_unary 3741 _ _ _ rfl (by decide)) <|
  Chain.cons (stepAt_unary 3742 _ _ _ rfl (by decide)) <|
  Chain.cons (stepAt_binary 3743 _ _ _ _ rfl (by decide) (by decide)) <|
  Chain.cons (stepAt_binary 3744 _ _ _ _ rfl (by decide) (by decide)) <|
  Chain.cons (stepAt_nullary 3745 _ _ rfl) <|
  Chain.cons (stepAt_unary 3746 _ _ _ rfl (by decide)) <|
  Chain.cons (stepAt_binary 3747 _ _ _ _ rfl (by decide) (by decide)) <|
  Chain.cons (stepAt_nullary 3748 _ _ rfl) <|
  Chain.cons (stepAt_unary 3749 _ _ _ rfl (by decide)) <|
  Chain.cons (stepAt_binary 3750 _ _ _ _ rfl (by decide) (by decide)) <|
  Chain.cons (stepAt_ternary 3751 _ _ _ _ _ rfl (by decide) (by decide) (by decide)) <|
  Chain.cons (stepAt_nullary 3752 _ _ rfl) <|
  Chain.cons (stepAt_unary 3753 _ _ _ rfl (by decide)) <|
  Chain.cons (stepAt_binary 3754 _ _ _ _ rfl (by decide) (by decide)) <|
  Chain.cons (stepAt_nullary 3755 _ _ rfl) <|
  Chain.cons (stepAt_unary 3756 _ _ _ rfl (by decide)) <|
  Chain.cons (stepAt_binary 3757 _ _ _ _ rfl (by decide) (by decide)) <|
  Chain.cons (stepAt_ternary 3758 _ _ _ _ _ rfl (by decide) (by decide) (by decide)) <|
  Chain.cons (stepAt_unary 3759 _ _ _ rfl (by decide)) <|
  Chain.cons (stepAt_unary 3760 _ _ _ rfl (by decide)) <|
  Chain.cons (stepAt_binary 3761 _ _ _ _ rfl (by decide) (by decide)) <|
  Chain.cons (stepAt_binary 3762 _ _ _ _ rfl (by decide) (by decide)) <|
  Chain.cons (stepAt_nullary 3763 _ _ rfl) <|
  Chain.cons (stepAt_unary 3764 _ _ _ rfl (by decide)) <|
  Chain.cons (stepAt_binary 3765 _ _ _ _ rfl (by decide) (by decide)) <|
  Chain.cons (stepAt_unary 3766 _ _ _ rfl (by decide)) <|
  Chain.cons (stepAt_unary 3767 _ _ _ rfl (by decide)) <|
  Chain.cons (stepAt_binary 3768 _ _ _ _ rfl (by decide) (by decide)) <|
  Chain.cons (stepAt_nullary 3769 _ _ rfl) <|
  Chain.cons (stepAt_unary 3770 _ _ _ rfl (by decide)) <|
  Chain.cons (stepAt_binary 3771 _ _ _ _ rfl (by decide) (by decide)) <|
  Chain.cons (stepAt_unary 3772 _ _ _ rfl (by decide)) <|
  Chain.cons (stepAt_unary 3773 _ _ _ rfl (by decide)) <|
  Chain.cons (stepAt_binary 3774 _ _ _ _ rfl (by decide) (by decide)) <|
  Chain.cons (stepAt_unary 3775 _ _ _ rfl (by decide)) <|
  Chain.cons (stepAt_unary 3776 _ _ _ rfl (by decide)) <|
  Chain.cons (stepAt_binary 3777 _ _ _ _ rfl (by decide) (by decide)) <|
  Chain.cons (stepAt_nullary 3778 _ _ rfl) <|
  Chain.cons (stepAt_unary 3779 _ _ _ rfl (by decide)) <|
  Chain.cons (stepAt_binary 3780 _ _ _ _ rfl (by decide) (by decide)) <|
  Chain.cons (stepAt_unary 3781 _ _ _ rfl (by decide)) <|
  Chain.cons (stepAt_unary 3782 _ _ _ rfl (by decide)) <|
  Chain.cons (stepAt_binary 3783 _ _ _ _ rfl (by decide) (by decide)) <|
  Chain.cons (stepAt_binary 3784 _ _ _ _ rfl (by decide) (by decide)) <|
  Chain.cons (stepAt_nullary 3785 _ _ rfl) <|
  Chain.cons (stepAt_unary 3786 _ _ _ rfl (by decide)) <|
  Chain.cons (stepAt_binary 3787 _ _ _ _ rfl (by decide) (by decide)) <|
  Chain.cons (stepAt_unary 3788 _ _ _ rfl (by decide)) <|
  Chain.cons (stepAt_unary 3789 _ _ _ rfl (by decide)) <|
  Chain.cons (stepAt_binary 3790 _ _ _ _ rfl (by decide) (by decide)) <|
  Chain.cons (stepAt_unary 3791 _ _ _ rfl (by decide)) <|
  Chain.cons (stepAt_unary 3792 _ _ _ rfl (by decide)) <|
  Chain.cons (stepAt_binary 3793 _ _ _ _ rfl (by decide) (by decide)) <|
  Chain.cons (stepAt_binary 3794 _ _ _ _ rfl (by decide) (by decide)) <|
  Chain.cons (stepAt_unary 3795 _ _ _ rfl (by decide)) <|
  Chain.cons (stepAt_unary 3796 _ _ _ rfl (by decide)) <|
  Chain.cons (stepAt_binary 3797 _ _ _ _ rfl (by decide) (by decide)) <|
  Chain.cons (stepAt_unary 3798 _ _ _ rfl (by decide)) <|
  Chain.cons (stepAt_unary 3799 _ _ _ rfl (by decide)) <|
  Chain.cons (stepAt_binary 3800 _ _ _ _ rfl (by decide) (by decide)) <|
  Chain.cons (stepAt_binary 3801 _ _ _ _ rfl (by decide) (by decide)) <|
  Chain.cons (stepAt_unary 3802 _ _ _ rfl (by decide)) <|
  Chain.cons (stepAt_nullary 3803 _ _ rfl) <|
  Chain.cons (stepAt_unary 3804 _ _ _ rfl (by decide)) <|
  Chain.cons (stepAt_binary 3805 _ _ _ _ rfl (by decide) (by decide)) <|
  Chain.cons (stepAt_nullary 3806 _ _ rfl) <|
  Chain.cons (stepAt_unary 3807 _ _ _ rfl (by decide)) <|
  Chain.cons (stepAt_binary 3808 _ _ _ _ rfl (by decide) (by decide)) <|
  Chain.cons (stepAt_ternary 3809 _ _ _ _ _ rfl (by decide) (by decide) (by decide)) <|
  Chain.cons (stepAt_unary 3810 _ _ _ rfl (by decide)) <|
  Chain.cons (stepAt_binary 3811 _ _ _ _ rfl (by decide) (by decide)) <|
  Chain.cons (stepAt_unary 3812 _ _ _ rfl (by decide)) <|
  Chain.cons (stepAt_reshape 3813 _ _ _ _ rfl (by decide)) <|
  Chain.cons (stepAt_nullary 3814 _ _ rfl) <|
  Chain.cons (stepAt_unary 3815 _ _ _ rfl (by decide)) <|
  Chain.cons (stepAt_binary 3816 _ _ _ _ rfl (by decide) (by decide)) <|
  Chain.cons (stepAt_nullary 3817 _ _ rfl) <|
  Chain.cons (stepAt_unary 3818 _ _ _ rfl (by decide)) <|
  Chain.cons (stepAt_binary 3819 _ _ _ _ rfl (by decide) (by decide)) <|
  Chain.cons (stepAt_nullary 3820 _ _ rfl) <|
  Chain.cons (stepAt_unary 3821 _ _ _ rfl (by decide)) <|
  Chain.cons (stepAt_binary 3822 _ _ _ _ rfl (by decide) (by decide)) <|
  Chain.cons (stepAt_unary 3823 _ _ _ rfl (by decide)) <|
  Chain.cons (stepAt_reshape 3824 _ _ _ _ rfl (by decide)) <|
  Chain.cons (stepAt_nullary 3825 _ _ rfl) <|
  Chain.cons (stepAt_unary 3826 _ _ _ rfl (by decide)) <|
  Chain.cons (stepAt_binary 3827 _ _ _ _ rfl (by decide) (by decide)) <|
  Chain.cons (stepAt_nullary 3828 _ _ rfl) <|
  Chain.cons (stepAt_unary 3829 _ _ _ rfl (by decide)) <|
  Chain.cons (stepAt_binary 3830 _ _ _ _ rfl (by decide) (by decide)) <|
  Chain.cons (stepAt_nullary 3831 _ _ rfl) <|
  Chain.cons (stepAt_unary 3832 _ _ _ rfl (by decide)) <|
  Chain.cons (stepAt_binary 3833 _ _ _ _ rfl (by decide) (by decide)) <|
  Chain.cons (stepAt_unary 3834 _ _ _ rfl (by decide)) <|
  Chain.cons (stepAt_unary 3835 _ _ _ rfl (by decide)) <|
  Chain.cons (stepAt_binary 3836 _ _ _ _ rfl (by decide) (by decide)) <|
  Chain.cons (stepAt_binary 3837 _ _ _ _ rfl (by decide) (by decide)) <|
  Chain.cons (stepAt_unary 3838 _ _ _ rfl (by decide)) <|
  Chain.cons (stepAt_nullary 3839 _ _ rfl) <|
  Chain.cons (stepAt_nullary 3840 _ _ rfl) <|
  Chain.nil
theorem hostOps0_160_length : (hostOps0_160 : List (HloOp τ sig (Elt F))).length = 150 := rfl

set_option maxHeartbeats 4000000 in
/-- Operations 3813 … 3818 of the program, writing buffers 3841 … 3846. -/
theorem hostOps0_161_chain : Chain 3841 (hostOps0_161 : List (HloOp τ sig (Elt F))) :=
  Chain.cons (stepAt_unary 3841 _ _ _ rfl (by decide)) <|
  Chain.cons (stepAt_unary 3842 _ _ _ rfl (by decide)) <|
  Chain.cons (stepAt_binary 3843 _ _ _ _ rfl (by decide) (by decide)) <|
  Chain.cons (stepAt_unary 3844 _ _ _ rfl (by decide)) <|
  Chain.cons (stepAt_unary 3845 _ _ _ rfl (by decide)) <|
  Chain.cons (stepAt_binary 3846 _ _ _ _ rfl (by decide) (by decide)) <|
  Chain.nil
theorem hostOps0_161_length : (hostOps0_161 : List (HloOp τ sig (Elt F))).length = 6 := rfl

set_option maxHeartbeats 4000000 in
/-- Operations 3819 … 3823 of the program, writing buffers 3847 … 3851. -/
theorem hostOps0_162_chain : Chain 3847 (hostOps0_162 : List (HloOp τ sig (Elt F))) :=
  Chain.cons (stepAt_nullary 3847 _ _ rfl) <|
  Chain.cons (stepAt_unary 3848 _ _ _ rfl (by decide)) <|
  Chain.cons (stepAt_binary 3849 _ _ _ _ rfl (by decide) (by decide)) <|
  Chain.cons (stepAt_nullary 3850 _ _ rfl) <|
  Chain.cons (stepAt_nullary 3851 _ _ rfl) <|
  Chain.nil
theorem hostOps0_162_length : (hostOps0_162 : List (HloOp τ sig (Elt F))).length = 5 := rfl

set_option maxHeartbeats 4000000 in
/-- Operations 3824 … 3829 of the program, writing buffers 3852 … 3857. -/
theorem hostOps0_163_chain : Chain 3852 (hostOps0_163 : List (HloOp τ sig (Elt F))) :=
  Chain.cons (stepAt_unary 3852 _ _ _ rfl (by decide)) <|
  Chain.cons (stepAt_unary 3853 _ _ _ rfl (by decide)) <|
  Chain.cons (stepAt_binary 3854 _ _ _ _ rfl (by decide) (by decide)) <|
  Chain.cons (stepAt_unary 3855 _ _ _ rfl (by decide)) <|
  Chain.cons (stepAt_unary 3856 _ _ _ rfl (by decide)) <|
  Chain.cons (stepAt_binary 3857 _ _ _ _ rfl (by decide) (by decide)) <|
  Chain.nil
theorem hostOps0_163_length : (hostOps0_163 : List (HloOp τ sig (Elt F))).length = 6 := rfl

set_option maxHeartbeats 4000000 in
/-- Operations 3830 … 3832 of the program, writing buffers 3858 … 3860. -/
theorem hostOps0_164_chain : Chain 3858 (hostOps0_164 : List (HloOp τ sig (Elt F))) :=
  Chain.cons (stepAt_unary 3858 _ _ _ rfl (by decide)) <|
  Chain.cons (stepAt_nullary 3859 _ _ rfl) <|
  Chain.cons (stepAt_nullary 3860 _ _ rfl) <|
  Chain.nil
theorem hostOps0_164_length : (hostOps0_164 : List (HloOp τ sig (Elt F))).length = 3 := rfl

set_option maxHeartbeats 4000000 in
/-- Operations 3833 … 3838 of the program, writing buffers 3861 … 3866. -/
theorem hostOps0_165_chain : Chain 3861 (hostOps0_165 : List (HloOp τ sig (Elt F))) :=
  Chain.cons (stepAt_unary 3861 _ _ _ rfl (by decide)) <|
  Chain.cons (stepAt_unary 3862 _ _ _ rfl (by decide)) <|
  Chain.cons (stepAt_binary 3863 _ _ _ _ rfl (by decide) (by decide)) <|
  Chain.cons (stepAt_unary 3864 _ _ _ rfl (by decide)) <|
  Chain.cons (stepAt_unary 3865 _ _ _ rfl (by decide)) <|
  Chain.cons (stepAt_binary 3866 _ _ _ _ rfl (by decide) (by decide)) <|
  Chain.nil
theorem hostOps0_165_length : (hostOps0_165 : List (HloOp τ sig (Elt F))).length = 6 := rfl

set_option maxHeartbeats 4000000 in
/-- Operations 3839 … 3843 of the program, writing buffers 3867 … 3871. -/
theorem hostOps0_166_chain : Chain 3867 (hostOps0_166 : List (HloOp τ sig (Elt F))) :=
  Chain.cons (stepAt_nullary 3867 _ _ rfl) <|
  Chain.cons (stepAt_unary 3868 _ _ _ rfl (by decide)) <|
  Chain.cons (stepAt_binary 3869 _ _ _ _ rfl (by decide) (by decide)) <|
  Chain.cons (stepAt_nullary 3870 _ _ rfl) <|
  Chain.cons (stepAt_nullary 3871 _ _ rfl) <|
  Chain.nil
theorem hostOps0_166_length : (hostOps0_166 : List (HloOp τ sig (Elt F))).length = 5 := rfl

set_option maxHeartbeats 4000000 in
/-- Operations 3844 … 3849 of the program, writing buffers 3872 … 3877. -/
theorem hostOps0_167_chain : Chain 3872 (hostOps0_167 : List (HloOp τ sig (Elt F))) :=
  Chain.cons (stepAt_unary 3872 _ _ _ rfl (by decide)) <|
  Chain.cons (stepAt_unary 3873 _ _ _ rfl (by decide)) <|
  Chain.cons (stepAt_binary 3874 _ _ _ _ rfl (by decide) (by decide)) <|
  Chain.cons (stepAt_unary 3875 _ _ _ rfl (by decide)) <|
  Chain.cons (stepAt_unary 3876 _ _ _ rfl (by decide)) <|
  Chain.cons (stepAt_binary 3877 _ _ _ _ rfl (by decide) (by decide)) <|
  Chain.nil
theorem hostOps0_167_length : (hostOps0_167 : List (HloOp τ sig (Elt F))).length = 6 := rfl

set_option maxHeartbeats 4000000 in
/-- Operations 3850 … 3999 of the program, writing buffers 3878 … 4027. -/
theorem hostOps0_168_chain : Chain 3878 (hostOps0_168 : List (HloOp τ sig (Elt F))) :=
  Chain.cons (stepAt_nullary 3878 _ _ rfl) <|
  Chain.cons (stepAt_unary 3879 _ _ _ rfl (by decide)) <|
  Chain.cons (stepAt_binary 3880 _ _ _ _ rfl (by decide) (by decide)) <|
  Chain.cons (stepAt_nullary 3881 _ _ rfl) <|
  Chain.cons (stepAt_unary 3882 _ _ _ rfl (by decide)) <|
  Chain.cons (stepAt_binary 3883 _ _ _ _ rfl (by decide) (by decide)) <|
  Chain.cons (stepAt_ternary 3884 _ _ _ _ _ rfl (by decide) (by decide) (by decide)) <|
  Chain.cons (stepAt_nullary 3885 _ _ rfl) <|
  Chain.cons (stepAt_unary 3886 _ _ _ rfl (by decide)) <|
  Chain.cons (stepAt_binary 3887 _ _ _ _ rfl (by decide) (by decide)) <|
  Chain.cons (stepAt_nullary 3888 _ _ rfl) <|
  Chain.cons (stepAt_unary 3889 _ _ _ rfl (by decide)) <|
  Chain.cons (stepAt_binary 3890 _ _ _ _ rfl (by decide) (by decide)) <|
  Chain.cons (stepAt_ternary 3891 _ _ _ _ _ rfl (by decide) (by decide) (by decide)) <|
  Chain.cons (stepAt_unary 3892 _ _ _ rfl (by decide)) <|
  Chain.cons (stepAt_unary 3893 _ _ _ rfl (by decide)) <|
  Chain.cons (stepAt_binary 3894 _ _ _ _ rfl (by decide) (by decide)) <|
  Chain.cons (stepAt_binary 3895 _ _ _ _ rfl (by decide) (by decide)) <|
  Chain.cons (stepAt_nullary 3896 _ _ rfl) <|
  Chain.cons (stepAt_unary 3897 _ _ _ rfl (by decide)) <|
  Chain.cons (stepAt_binary 3898 _ _ _ _ rfl (by decide) (by decide)) <|
  Chain.cons (stepAt_nullary 3899 _ _ rfl) <|
  Chain.cons (stepAt_unary 3900 _ _ _ rfl (by decide)) <|
  Chain.cons (stepAt_binary 3901 _ _ _ _ rfl (by decide) (by decide)) <|
  Chain.cons (stepAt_ternary 3902 _ _ _ _ _ rfl (by decide) (by decide) (by decide)) <|
  Chain.cons (stepAt_nullary 3903 _ _ rfl) <|
  Chain.cons (stepAt_unary 3904 _ _ _ rfl (by decide)) <|
  Chain.cons (stepAt_binary 3905 _ _ _ _ rfl (by decide) (by decide)) <|
  Chain.cons (stepAt_nullary 3906 _ _ rfl) <|
  Chain.cons (stepAt_unary 3907 _ _ _ rfl (by decide)) <|
  Chain.cons (stepAt_binary 3908 _ _ _ _ rfl (by decide) (by decide)) <|
  Chain.cons (stepAt_ternary 3909 _ _ _ _ _ rfl (by decide) (by decide) (by decide)) <|
  Chain.cons (stepAt_unary 3910 _ _ _ rfl (by decide)) <|
  Chain.cons (stepAt_unary 3911 _ _ _ rfl (by decide)) <|
  Chain.cons (stepAt_binary 3912 _ _ _ _ rfl (by decide) (by decide)) <|
  Chain.cons (stepAt_binary 3913 _ _ _ _ rfl (by decide) (by decide)) <|
  Chain.cons (stepAt_nullary 3914 _ _ rfl) <|
  Chain.cons (stepAt_unary 3915 _ _ _ rfl (by decide)) <|
  Chain.cons (stepAt_binary 3916 _ _ _ _ rfl (by decide) (by decide)) <|
  Chain.cons (stepAt_nullary 3917 _ _ rfl) <|
  Chain.cons (stepAt_unary 3918 _ _ _ rfl (by decide)) <|
  Chain.cons (stepAt_binary 3919 _ _ _ _ rfl (by decide) (by decide)) <|
  Chain.cons (stepAt_ternary 3920 _ _ _ _ _ rfl (by decide) (by decide) (by decide)) <|
  Chain.cons (stepAt_nullary 3921 _ _ rfl) <|
  Chain.cons (stepAt_unary 3922 _ _ _ rfl (by decide)) <|
  Chain.cons (stepAt_binary 3923 _ _ _ _ rfl (by decide) (by decide)) <|
  Chain.cons (stepAt_nullary 3924 _ _ rfl) <|
  Chain.cons (stepAt_unary 3925 _ _ _ rfl (by decide)) <|
  Chain.cons (stepAt_binary 3926 _ _ _ _ rfl (by decide) (by decide)) <|
  Chain.cons (stepAt_ternary 3927 _ _ _ _ _ rfl (by decide) (by decide) (by decide)) <|
  Chain.cons (stepAt_unary 3928 _ _ _ rfl (by decide)) <|
  Chain.cons (stepAt_unary 3929 _ _ _ rfl (by decide)) <|
  Chain.cons (stepAt_binary 3930 _ _ _ _ rfl (by decide) (by decide)) <|
  Chain.cons (stepAt_binary 3931 _ _ _ _ rfl (by decide) (by decide)) <|
  Chain.cons (stepAt_nullary 3932 _ _ rfl) <|
  Chain.cons (stepAt_unary 3933 _ _ _ rfl (by decide)) <|
  Chain.cons (stepAt_binary 3934 _ _ _ _ rfl (by decide) (by decide)) <|
  Chain.cons (stepAt_nullary 3935 _ _ rfl) <|
  Chain.cons (stepAt_unary 3936 _ _ _ rfl (by decide)) <|
  Chain.cons (stepAt_binary 3937 _ _ _ _ rfl (by decide) (by decide)) <|
  Chain.cons (stepAt_ternary 3938 _ _ _ _ _ rfl (by decide) (by decide) (by decide)) <|
  Chain.cons (stepAt_nullary 3939 _ _ rfl) <|
  Chain.cons (stepAt_unary 3940 _ _ _ rfl (by decide)) <|
  Chain.cons (stepAt_binary 3941 _ _ _ _ rfl (by decide) (by decide)) <|
  Chain.cons (stepAt_nullary 3942 _ _ rfl) <|
  Chain.cons (stepAt_unary 3943 _ _ _ rfl (by decide)) <|
  Chain.cons (stepAt_binary 3944 _ _ _ _ rfl (by decide) (by decide)) <|
  Chain.cons (stepAt_ternary 3945 _ _ _ _ _ rfl (by decide) (by decide) (by decide)) <|
  Chain.cons (stepAt_unary 3946 _ _ _ rfl (by decide)) <|
  Chain.cons (stepAt_unary 3947 _ _ _ rfl (by decide)) <|
  Chain.cons (stepAt_binary 3948 _ _ _ _ rfl (by decide) (by decide)) <|
  Chain.cons (stepAt_binary 3949 _ _ _ _ rfl (by decide) (by decide)) <|
  Chain.cons (stepAt_nullary 3950 _ _ rfl) <|
  Chain.cons (stepAt_unary 3951 _ _ _ rfl (by decide)) <|
  Chain.cons (stepAt_binary 3952 _ _ _ _ rfl (by decide) (by decide)) <|
  Chain.cons (stepAt_unary 3953 _ _ _ rfl (by decide)) <|
  Chain.cons (stepAt_unary 3954 _ _ _ rfl (by decide)) <|
  Chain.cons (stepAt_binary 3955 _ _ _ _ rfl (by decide) (by decide)) <|
  Chain.cons (stepAt_nullary 3956 _ _ rfl) <|
  Chain.cons (stepAt_unary 3957 _ _ _ rfl (by decide)) <|
  Chain.cons (stepAt_binary 3958 _ _ _ _ rfl (by decide) (by decide)) <|
  Chain.cons (stepAt_unary 3959 _ _ _ rfl (by decide)) <|
  Chain.cons (stepAt_unary 3960 _ _ _ rfl (by decide)) <|
  Chain.cons (stepAt_binary 3961 _ _ _ _ rfl (by decide) (by decide)) <|
  Chain.cons (stepAt_unary 3962 _ _ _ rfl (by decide)) <|
  Chain.cons (stepAt_unary 3963 _ _ _ rfl (by decide)) <|
  Chain.cons (stepAt_binary 3964 _ _ _ _ rfl (by decide) (by decide)) <|
  Chain.cons (stepAt_nullary 3965 _ _ rfl) <|
  Chain.cons (stepAt_unary 3966 _ _ _ rfl (by decide)) <|
  Chain.cons (stepAt_binary 3967 _ _ _ _ rfl (by decide) (by decide)) <|
  Chain.cons (stepAt_unary 3968 _ _ _ rfl (by decide)) <|
  Chain.cons (stepAt_unary 3969 _ _ _ rfl (by decide)) <|
  Chain.cons (stepAt_binary 3970 _ _ _ _ rfl (by decide) (by decide)) <|
  Chain.cons (stepAt_binary 3971 _ _ _ _ rfl (by decide) (by decide)) <|
  Chain.cons (stepAt_nullary 3972 _ _ rfl) <|
  Chain.cons (stepAt_unary 3973 _ _ _ rfl (by decide)) <|
  Chain.cons (stepAt_binary 3974 _ _ _ _ rfl (by decide) (by decide)) <|
  Chain.cons (stepAt_unary 3975 _ _ _ rfl (by decide)) <|
  Chain.cons (stepAt_unary 3976 _ _ _ rfl (by decide)) <|
  Chain.cons (stepAt_binary 3977 _ _ _ _ rfl (by decide) (by decide)) <|
  Chain.cons (stepAt_unary 3978 _ _ _ rfl (by decide)) <|
  Chain.cons (stepAt_unary 3979 _ _ _ rfl (by decide)) <|
  Chain.cons (stepAt_binary 3980 _ _ _ _ rfl (by decide) (by decide)) <|
  Chain.cons (stepAt_binary 3981 _ _ _ _ rfl (by decide) (by decide)) <|
  Chain.cons (stepAt_unary 3982 _ _ _ rfl (by decide)) <|
  Chain.cons (stepAt_unary 3983 _ _ _ rfl (by decide)) <|
  Chain.cons (stepAt_binary 3984 _ _ _ _ rfl (by decide) (by decide)) <|
  Chain.cons (stepAt_unary 3985 _ _ _ rfl (by decide)) <|
  Chain.cons (stepAt_unary 3986 _ _ _ rfl (by decide)) <|
  Chain.cons (stepAt_binary 3987 _ _ _ _ rfl (by decide) (by decide)) <|
  Chain.cons (stepAt_binary 3988 _ _ _ _ rfl (by decide) (by decide)) <|
  Chain.cons (stepAt_unary 3989 _ _ _ rfl (by decide)) <|
  Chain.cons (stepAt_nullary 3990 _ _ rfl) <|
  Chain.cons (stepAt_unary 3991 _ _ _ rfl (by decide)) <|
  Chain.cons (stepAt_binary 3992 _ _ _ _ rfl (by decide) (by decide)) <|
  Chain.cons (stepAt_nullary 3993 _ _ rfl) <|
  Chain.cons (stepAt_unary 3994 _ _ _ rfl (by decide)) <|
  Chain.cons (stepAt_binary 3995 _ _ _ _ rfl (by decide) (by decide)) <|
  Chain.cons (stepAt_ternary 3996 _ _ _ _ _ rfl (by decide) (by decide) (by decide)) <|
  Chain.cons (stepAt_unary 3997 _ _ _ rfl (by decide)) <|
  Chain.cons (stepAt_binary 3998 _ _ _ _ rfl (by decide) (by decide)) <|
  Chain.cons (stepAt_unary 3999 _ _ _ rfl (by decide)) <|
  Chain.cons (stepAt_reshape 4000 _ _ _ _ rfl (by decide)) <|
  Chain.cons (stepAt_nullary 4001 _ _ rfl) <|
  Chain.cons (stepAt_unary 4002 _ _ _ rfl (by decide)) <|
  Chain.cons (stepAt_binary 4003 _ _ _ _ rfl (by decide) (by decide)) <|
  Chain.cons (stepAt_nullary 4004 _ _ rfl) <|
  Chain.cons (stepAt_unary 4005 _ _ _ rfl (by decide)) <|
  Chain.cons (stepAt_binary 4006 _ _ _ _ rfl (by decide) (by decide)) <|
  Chain.cons (stepAt_nullary 4007 _ _ rfl) <|
  Chain.cons (stepAt_unary 4008 _ _ _ rfl (by decide)) <|
  Chain.cons (stepAt_binary 4009 _ _ _ _ rfl (by decide) (by decide)) <|
  Chain.cons (stepAt_unary 4010 _ _ _ rfl (by decide)) <|
  Chain.cons (stepAt_reshape 4011 _ _ _ _ rfl (by decide)) <|
  Chain.cons (stepAt_nullary 4012 _ _ rfl) <|
  Chain.cons (stepAt_unary 4013 _ _ _ rfl (by decide)) <|
  Chain.cons (stepAt_binary 4014 _ _ _ _ rfl (by decide) (by decide)) <|
  Chain.cons (stepAt_nullary 4015 _ _ rfl) <|
  Chain.cons (stepAt_unary 4016 _ _ _ rfl (by decide)) <|
  Chain.cons (stepAt_binary 4017 _ _ _ _ rfl (by decide) (by decide)) <|
  Chain.cons (stepAt_nullary 4018 _ _ rfl) <|
  Chain.cons (stepAt_unary 4019 _ _ _ rfl (by decide)) <|
  Chain.cons (stepAt_binary 4020 _ _ _ _ rfl (by decide) (by decide)) <|
  Chain.cons (stepAt_unary 4021 _ _ _ rfl (by decide)) <|
  Chain.cons (stepAt_unary 4022 _ _ _ rfl (by decide)) <|
  Chain.cons (stepAt_binary 4023 _ _ _ _ rfl (by decide) (by decide)) <|
  Chain.cons (stepAt_binary 4024 _ _ _ _ rfl (by decide) (by decide)) <|
  Chain.cons (stepAt_unary 4025 _ _ _ rfl (by decide)) <|
  Chain.cons (stepAt_nullary 4026 _ _ rfl) <|
  Chain.cons (stepAt_nullary 4027 _ _ rfl) <|
  Chain.nil
theorem hostOps0_168_length : (hostOps0_168 : List (HloOp τ sig (Elt F))).length = 150 := rfl

set_option maxHeartbeats 4000000 in
/-- Operations 4000 … 4005 of the program, writing buffers 4028 … 4033. -/
theorem hostOps0_169_chain : Chain 4028 (hostOps0_169 : List (HloOp τ sig (Elt F))) :=
  Chain.cons (stepAt_unary 4028 _ _ _ rfl (by decide)) <|
  Chain.cons (stepAt_unary 4029 _ _ _ rfl (by decide)) <|
  Chain.cons (stepAt_binary 4030 _ _ _ _ rfl (by decide) (by decide)) <|
  Chain.cons (stepAt_unary 4031 _ _ _ rfl (by decide)) <|
  Chain.cons (stepAt_unary 4032 _ _ _ rfl (by decide)) <|
  Chain.cons (stepAt_binary 4033 _ _ _ _ rfl (by decide) (by decide)) <|
  Chain.nil
theorem hostOps0_169_length : (hostOps0_169 : List (HloOp τ sig (Elt F))).length = 6 := rfl

set_option maxHeartbeats 4000000 in
/-- Operations 4006 … 4010 of the program, writing buffers 4034 … 4038. -/
theorem hostOps0_170_chain : Chain 4034 (hostOps0_170 : List (HloOp τ sig (Elt F))) :=
  Chain.cons (stepAt_nullary 4034 _ _ rfl) <|
  Chain.cons (stepAt_unary 4035 _ _ _ rfl (by decide)) <|
  Chain.cons (stepAt_binary 4036 _ _ _ _ rfl (by decide) (by decide)) <|
  Chain.cons (stepAt_nullary 4037 _ _ rfl) <|
  Chain.cons (stepAt_nullary 4038 _ _ rfl) <|
  Chain.nil
theorem hostOps0_170_length : (hostOps0_170 : List (HloOp τ sig (Elt F))).length = 5 := rfl

set_option maxHeartbeats 4000000 in
/-- Operations 4011 … 4016 of the program, writing buffers 4039 … 4044. -/
theorem hostOps0_171_chain : Chain 4039 (hostOps0_171 : List (HloOp τ sig (Elt F))) :=
  Chain.cons (stepAt_unary 4039 _ _ _ rfl (by decide)) <|
  Chain.cons (stepAt_unary 4040 _ _ _ rfl (by decide)) <|
  Chain.cons (stepAt_binary 4041 _ _ _ _ rfl (by decide) (by decide)) <|
  Chain.cons (stepAt_unary 4042 _ _ _ rfl (by decide)) <|
  Chain.cons (stepAt_unary 4043 _ _ _ rfl (by decide)) <|
  Chain.cons (stepAt_binary 4044 _ _ _ _ rfl (by decide) (by decide)) <|
  Chain.nil
theorem hostOps0_171_length : (hostOps0_171 : List (HloOp τ sig (Elt F))).length = 6 := rfl

set_option maxHeartbeats 4000000 in
/-- Operations 4017 … 4019 of the program, writing buffers 4045 … 4047. -/
theorem hostOps0_172_chain : Chain 4045 (hostOps0_172 : List (HloOp τ sig (Elt F))) :=
  Chain.cons (stepAt_unary 4045 _ _ _ rfl (by decide)) <|
  Chain.cons (stepAt_nullary 4046 _ _ rfl) <|
  Chain.cons (stepAt_nullary 4047 _ _ rfl) <|
  Chain.nil
theorem hostOps0_172_length : (hostOps0_172 : List (HloOp τ sig (Elt F))).length = 3 := rfl

set_option maxHeartbeats 4000000 in
/-- Operations 4020 … 4025 of the program, writing buffers 4048 … 4053. -/
theorem hostOps0_173_chain : Chain 4048 (hostOps0_173 : List (HloOp τ sig (Elt F))) :=
  Chain.cons (stepAt_unary 4048 _ _ _ rfl (by decide)) <|
  Chain.cons (stepAt_unary 4049 _ _ _ rfl (by decide)) <|
  Chain.cons (stepAt_binary 4050 _ _ _ _ rfl (by decide) (by decide)) <|
  Chain.cons (stepAt_unary 4051 _ _ _ rfl (by decide)) <|
  Chain.cons (stepAt_unary 4052 _ _ _ rfl (by decide)) <|
  Chain.cons (stepAt_binary 4053 _ _ _ _ rfl (by decide) (by decide)) <|
  Chain.nil
theorem hostOps0_173_length : (hostOps0_173 : List (HloOp τ sig (Elt F))).length = 6 := rfl

set_option maxHeartbeats 4000000 in
/-- Operations 4026 … 4030 of the program, writing buffers 4054 … 4058. -/
theorem hostOps0_174_chain : Chain 4054 (hostOps0_174 : List (HloOp τ sig (Elt F))) :=
  Chain.cons (stepAt_nullary 4054 _ _ rfl) <|
  Chain.cons (stepAt_unary 4055 _ _ _ rfl (by decide)) <|
  Chain.cons (stepAt_binary 4056 _ _ _ _ rfl (by decide) (by decide)) <|
  Chain.cons (stepAt_nullary 4057 _ _ rfl) <|
  Chain.cons (stepAt_nullary 4058 _ _ rfl) <|
  Chain.nil
theorem hostOps0_174_length : (hostOps0_174 : List (HloOp τ sig (Elt F))).length = 5 := rfl

set_option maxHeartbeats 4000000 in
/-- Operations 4031 … 4036 of the program, writing buffers 4059 … 4064. -/
theorem hostOps0_175_chain : Chain 4059 (hostOps0_175 : List (HloOp τ sig (Elt F))) :=
  Chain.cons (stepAt_unary 4059 _ _ _ rfl (by decide)) <|
  Chain.cons (stepAt_unary 4060 _ _ _ rfl (by decide)) <|
  Chain.cons (stepAt_binary 4061 _ _ _ _ rfl (by decide) (by decide)) <|
  Chain.cons (stepAt_unary 4062 _ _ _ rfl (by decide)) <|
  Chain.cons (stepAt_unary 4063 _ _ _ rfl (by decide)) <|
  Chain.cons (stepAt_binary 4064 _ _ _ _ rfl (by decide) (by decide)) <|
  Chain.nil
theorem hostOps0_175_length : (hostOps0_175 : List (HloOp τ sig (Elt F))).length = 6 := rfl

set_option maxHeartbeats 4000000 in
/-- Operations 4037 … 4186 of the program, writing buffers 4065 … 4214. -/
theorem hostOps0_176_chain : Chain 4065 (hostOps0_176 : List (HloOp τ sig (Elt F))) :=
  Chain.cons (stepAt_nullary 4065 _ _ rfl) <|
  Chain.cons (stepAt_unary 4066 _ _ _ rfl (by decide)) <|
  Chain.cons (stepAt_binary 4067 _ _ _ _ rfl (by decide) (by decide)) <|
  Chain.cons (stepAt_nullary 4068 _ _ rfl) <|
  Chain.cons (stepAt_unary 4069 _ _ _ rfl (by decide)) <|
  Chain.cons (stepAt_binary 4070 _ _ _ _ rfl (by decide) (by decide)) <|
  Chain.cons (stepAt_ternary 4071 _ _ _ _ _ rfl (by decide) (by decide) (by decide)) <|
  Chain.cons (stepAt_nullary 4072 _ _ rfl) <|
  Chain.cons (stepAt_unary 4073 _ _ _ rfl (by decide)) <|
  Chain.cons (stepAt_binary 4074 _ _ _ _ rfl (by decide) (by decide)) <|
  Chain.cons (stepAt_nullary 4075 _ _ rfl) <|
  Chain.cons (stepAt_unary 4076 _ _ _ rfl (by decide)) <|
  Chain.cons (stepAt_binary 4077 _ _ _ _ rfl (by decide) (by decide)) <|
  Chain.cons (stepAt_ternary 4078 _ _ _ _ _ rfl (by decide) (by decide) (by decide)) <|
  Chain.cons (stepAt_unary 4079 _ _ _ rfl (by decide)) <|
  Chain.cons (stepAt_unary 4080 _ _ _ rfl (by decide)) <|
  Chain.cons (stepAt_binary 4081 _ _ _ _ rfl (by decide) (by decide)) <|
  Chain.cons (stepAt_binary 4082 _ _ _ _ rfl (by decide) (by decide)) <|
  Chain.cons (stepAt_nullary 4083 _ _ rfl) <|
  Chain.cons (stepAt_unary 4084 _ _ _ rfl (by decide)) <|
  Chain.cons (stepAt_binary 4085 _ _ _ _ rfl (by decide) (by decide)) <|
  Chain.cons (stepAt_nullary 4086 _ _ rfl) <|
  Chain.cons (stepAt_unary 4087 _ _ _ rfl (by decide)) <|
  Chain.cons (stepAt_binary 4088 _ _ _ _ rfl (by decide) (by decide)) <|
  Chain.cons (stepAt_ternary 4089 _ _ _ _ _ rfl (by decide) (by decide) (by decide)) <|
  Chain.cons (stepAt_nullary 4090 _ _ rfl) <|
  Chain.cons (stepAt_unary 4091 _ _ _ rfl (by decide)) <|
  Chain.cons (stepAt_binary 4092 _ _ _ _ rfl (by decide) (by decide)) <|
  Chain.cons (stepAt_nullary 4093 _ _ rfl) <|
  Chain.cons (stepAt_unary 4094 _ _ _ rfl (by decide)) <|
  Chain.cons (stepAt_binary 4095 _ _ _ _ rfl (by decide) (by decide)) <|
  Chain.cons (stepAt_ternary 4096 _ _ _ _ _ rfl (by decide) (by decide) (by decide)) <|
  Chain.cons (stepAt_unary 4097 _ _ _ rfl (by decide)) <|
  Chain.cons (stepAt_unary 4098 _ _ _ rfl (by decide)) <|
  Chain.cons (stepAt_binary 4099 _ _ _ _ rfl (by decide) (by decide)) <|
  Chain.cons (stepAt_binary 4100 _ _ _ _ rfl (by decide) (by decide)) <|
  Chain.cons (stepAt_nullary 4101 _ _ rfl) <|
  Chain.cons (stepAt_unary 4102 _ _ _ rfl (by decide)) <|
  Chain.cons (stepAt_binary 4103 _ _ _ _ rfl (by decide) (by decide)) <|
  Chain.cons (stepAt_nullary 4104 _ _ rfl) <|
  Chain.cons (stepAt_unary 4105 _ _ _ rfl (by decide)) <|
  Chain.cons (stepAt_binary 4106 _ _ _ _ rfl (by decide) (by decide)) <|
  Chain.cons (stepAt_ternary 4107 _ _ _ _ _ rfl (by decide) (by decide) (by decide)) <|
  Chain.cons (stepAt_nullary 4108 _ _ rfl) <|
  Chain.cons (stepAt_unary 4109 _ _ _ rfl (by decide)) <|
  Chain.cons (stepAt_binary 4110 _ _ _ _ rfl (by decide) (by decide)) <|
  Chain.cons (stepAt_nullary 4111 _ _ rfl) <|
  Chain.cons (stepAt_unary 4112 _ _ _ rfl (by decide)) <|
  Chain.cons (stepAt_binary 4113 _ _ _ _ rfl (by decide) (by decide)) <|
  Chain.cons (stepAt_ternary 4114 _ _ _ _ _ rfl (by decide) (by decide) (by decide)) <|
  Chain.cons (stepAt_unary 4115 _ _ _ rfl (by decide)) <|
  Chain.cons (stepAt_unary 4116 _ _ _ rfl (by decide)) <|
  Chain.cons (stepAt_binary 4117 _ _ _ _ rfl (by decide) (by decide)) <|
  Chain.cons (stepAt_binary 4118 _ _ _ _ rfl (by decide) (by decide)) <|
  Chain.cons (stepAt_nullary 4119 _ _ rfl) <|
  Chain.cons (stepAt_unary 4120 _ _ _ rfl (by decide)) <|
  Chain.cons (stepAt_binary 4121 _ _ _ _ rfl (by decide) (by decide)) <|
  Chain.cons (stepAt_nullary 4122 _ _ rfl) <|
  Chain.cons (stepAt_unary 4123 _ _ _ rfl (by decide)) <|
  Chain.cons (stepAt_binary 4124 _ _ _ _ rfl (by decide) (by decide)) <|
  Chain.cons (stepAt_ternary 4125 _ _ _ _ _ rfl (by decide) (by decide) (by decide)) <|
  Chain.cons (stepAt_nullary 4126 _ _ rfl) <|
  Chain.cons (stepAt_unary 4127 _ _ _ rfl (by decide)) <|
  Chain.cons (stepAt_binary 4128 _ _ _ _ rfl (by decide) (by decide)) <|
  Chain.cons (stepAt_nullary 4129 _ _ rfl) <|
  Chain.cons (stepAt_unary 4130 _ _ _ rfl (by decide)) <|
  Chain.cons (stepAt_binary 4131 _ _ _ _ rfl (by decide) (by decide)) <|
  Chain.cons (stepAt_ternary 4132 _ _ _ _ _ rfl (by decide) (by decide) (by decide)) <|
  Chain.cons (stepAt_unary 4133 _ _ _ rfl (by decide)) <|
  Chain.cons (stepAt_unary 4134 _ _ _ rfl (by decide)) <|
  Chain.cons (stepAt_binary 4135 _ _ _ _ rfl (by decide) (by decide)) <|
  Chain.cons (stepAt_binary 4136 _ _ _ _ rfl (by decide) (by decide)) <|
  Chain.cons (stepAt_nullary 4137 _ _ rfl) <|
  Chain.cons (stepAt_unary 4138 _ _ _ rfl (by decide)) <|
  Chain.cons (stepAt_binary 4139 _ _ _ _ rfl (by decide) (by decide)) <|
  Chain.cons (stepAt_unary 4140 _ _ _ rfl (by decide)) <|
  Chain.cons (stepAt_unary 4141 _ _ _ rfl (by decide)) <|
  Chain.cons (stepAt_binary 4142 _ _ _ _ rfl (by decide) (by decide)) <|
  Chain.cons (stepAt_nullary 4143 _ _ rfl) <|
  Chain.cons (stepAt_unary 4144 _ _ _ rfl (by decide)) <|
  Chain.cons (stepAt_binary 4145 _ _ _ _ rfl (by decide) (by decide)) <|
  Chain.cons (stepAt_unary 4146 _ _ _ rfl (by decide)) <|
  Chain.cons (stepAt_unary 4147 _ _ _ rfl (by decide)) <|
  Chain.cons (stepAt_binary 4148 _ _ _ _ rfl (by decide) (by decide)) <|
  Chain.cons (stepAt_unary 4149 _ _ _ rfl (by decide)) <|
  Chain.cons (stepAt_unary 4150 _ _ _ rfl (by decide)) <|
  Chain.cons (stepAt_binary 4151 _ _ _ _ rfl (by decide) (by decide)) <|
  Chain.cons (stepAt_nullary 4152 _ _ rfl) <|
  Chain.cons (stepAt_unary 4153 _ _ _ rfl (by decide)) <|
  Chain.cons (stepAt_binary 4154 _ _ _ _ rfl (by decide) (by decide)) <|
  Chain.cons (stepAt_unary 4155 _ _ _ rfl (by decide)) <|
  Chain.cons (stepAt_unary 4156 _ _ _ rfl (by decide)) <|
  Chain.cons (stepAt_binary 4157 _ _ _ _ rfl (by decide) (by decide)) <|
  Chain.cons (stepAt_binary 4158 _ _ _ _ rfl (by decide) (by decide)) <|
  Chain.cons (stepAt_nullary 4159 _ _ rfl) <|
  Chain.cons (stepAt_unary 4160 _ _ _ rfl (by decide)) <|
  Chain.cons (stepAt_binary 4161 _ _ _ _ rfl (by decide) (by decide)) <|
  Chain.cons (stepAt_unary 4162 _ _ _ rfl (by decide)) <|
  Chain.cons (stepAt_unary 4163 _ _ _ rfl (by decide)) <|
  Chain.cons (stepAt_binary 4164 _ _ _ _ rfl (by decide) (by decide)) <|
  Chain.cons (stepAt_unary 4165 _ _ _ rfl (by decide)) <|
  Chain.cons (stepAt_unary 4166 _ _ _ rfl (by decide)) <|
  Chain.cons (stepAt_binary 4167 _ _ _ _ rfl (by decide) (by decide)) <|
  Chain.cons (stepAt_binary 4168 _ _ _ _ rfl (by decide) (by decide)) <|
  Chain.cons (stepAt_unary 4169 _ _ _ rfl (by decide)) <|
  Chain.cons (stepAt_unary 4170 _ _ _ rfl (by decide)) <|
  Chain.cons (stepAt_binary 4171 _ _ _ _ rfl (by decide) (by decide)) <|
  Chain.cons (stepAt_unary 4172 _ _ _ rfl (by decide)) <|
  Chain.cons (stepAt_unary 4173 _ _ _ rfl (by decide)) <|
  Chain.cons (stepAt_binary 4174 _ _ _ _ rfl (by decide) (by decide)) <|
  Chain.cons (stepAt_binary 4175 _ _ _ _ rfl (by decide) (by decide)) <|
  Chain.cons (stepAt_unary 4176 _ _ _ rfl (by decide)) <|
  Chain.cons (stepAt_nullary 4177 _ _ rfl) <|
  Chain.cons (stepAt_unary 4178 _ _ _ rfl (by decide)) <|
  Chain.cons (stepAt_binary 4179 _ _ _ _ rfl (by decide) (by decide)) <|
  Chain.cons (stepAt_nullary 4180 _ _ rfl) <|
  Chain.cons (stepAt_unary 4181 _ _ _ rfl (by decide)) <|
  Chain.cons (stepAt_binary 4182 _ _ _ _ rfl (by decide) (by decide)) <|
  Chain.cons (stepAt_ternary 4183 _ _ _ _ _ rfl (by decide) (by decide) (by decide)) <|
  Chain.cons (stepAt_unary 4184 _ _ _ rfl (by decide)) <|
  Chain.cons (stepAt_binary 4185 _ _ _ _ rfl (by decide) (by decide)) <|
  Chain.cons (stepAt_unary 4186 _ _ _ rfl (by decide)) <|
  Chain.cons (stepAt_reshape 4187 _ _ _ _ rfl (by decide)) <|
  Chain.cons (stepAt_nullary 4188 _ _ rfl) <|
  Chain.cons (stepAt_unary 4189 _ _ _ rfl (by decide)) <|
  Chain.cons (stepAt_binary 4190 _ _ _ _ rfl (by decide) (by decide)) <|
  Chain.cons (stepAt_nullary 4191 _ _ rfl) <|
  Chain.cons (stepAt_unary 4192 _ _ _ rfl (by decide)) <|
  Chain.cons (stepAt_binary 4193 _ _ _ _ rfl (by decide) (by decide)) <|
  Chain.cons (stepAt_nullary 4194 _ _ rfl) <|
  Chain.cons (stepAt_unary 4195 _ _ _ rfl (by decide)) <|
  Chain.cons (stepAt_binary 4196 _ _ _ _ rfl (by decide) (by decide)) <|
  Chain.cons (stepAt_unary 4197 _ _ _ rfl (by decide)) <|
  Chain.cons (stepAt_reshape 4198 _ _ _ _ rfl (by decide)) <|
  Chain.cons (stepAt_nullary 4199 _ _ rfl) <|
  Chain.cons (stepAt_unary 4200 _ _ _ rfl (by decide)) <|
  Chain.cons (stepAt_binary 4201 _ _ _ _ rfl (by decide) (by decide)) <|
  Chain.cons (stepAt_nullary 4202 _ _ rfl) <|
  Chain.cons (stepAt_unary 4203 _ _ _ rfl (by decide)) <|
  Chain.cons (stepAt_binary 4204 _ _ _ _ rfl (by decide) (by decide)) <|
  Chain.cons (stepAt_nullary 4205 _ _ rfl) <|
  Chain.cons (stepAt_unary 4206 _ _ _ rfl (by decide)) <|
  Chain.cons (stepAt_binary 4207 _ _ _ _ rfl (by decide) (by decide)) <|
  Chain.cons (stepAt_unary 4208 _ _ _ rfl (by decide)) <|
  Chain.cons (stepAt_unary 4209 _ _ _ rfl (by decide)) <|
  Chain.cons (stepAt_binary 4210 _ _ _ _ rfl (by decide) (by decide)) <|
  Chain.cons (stepAt_binary 4211 _ _ _ _ rfl (by decide) (by decide)) <|
  Chain.cons (stepAt_unary 4212 _ _ _ rfl (by decide)) <|
  Chain.cons (stepAt_nullary 4213 _ _ rfl) <|
  Chain.cons (stepAt_nullary 4214 _ _ rfl) <|
  Chain.nil
theorem hostOps0_176_length : (hostOps0_176 : List (HloOp τ sig (Elt F))).length = 150 := rfl

set_option maxHeartbeats 4000000 in
/-- Operations 4187 … 4192 of the program, writing buffers 4215 … 4220. -/
theorem hostOps0_177_chain : Chain 4215 (hostOps0_177 : List (HloOp τ sig (Elt F))) :=
  Chain.cons (stepAt_unary 4215 _ _ _ rfl (by decide)) <|
  Chain.cons (stepAt_unary 4216 _ _ _ rfl (by decide)) <|
  Chain.cons (stepAt_binary 4217 _ _ _ _ rfl (by decide) (by decide)) <|
  Chain.cons (stepAt_unary 4218 _ _ _ rfl (by decide)) <|
  Chain.cons (stepAt_unary 4219 _ _ _ rfl (by decide)) <|
  Chain.cons (stepAt_binary 4220 _ _ _ _ rfl (by decide) (by decide)) <|
  Chain.nil
theorem hostOps0_177_length : (hostOps0_177 : List (HloOp τ sig (Elt F))).length = 6 := rfl

set_option maxHeartbeats 4000000 in
/-- Operations 4193 … 4197 of the program, writing buffers 4221 … 4225. -/
theorem hostOps0_178_chain : Chain 4221 (hostOps0_178 : List (HloOp τ sig (Elt F))) :=
  Chain.cons (stepAt_nullary 4221 _ _ rfl) <|
  Chain.cons (stepAt_unary 4222 _ _ _ rfl (by decide)) <|
  Chain.cons (stepAt_binary 4223 _ _ _ _ rfl (by decide) (by decide)) <|
  Chain.cons (stepAt_nullary 4224 _ _ rfl) <|
  Chain.cons (stepAt_nullary 4225 _ _ rfl) <|
  Chain.nil
theorem hostOps0_178_length : (hostOps0_178 : List (HloOp τ sig (Elt F))).length = 5 := rfl

set_option maxHeartbeats 4000000 in
/-- Operations 4198 … 4203 of the program, writing buffers 4226 … 4231. -/
theorem hostOps0_179_chain : Chain 4226 (hostOps0_179 : List (HloOp τ sig (Elt F))) :=
  Chain.cons (stepAt_unary 4226 _ _ _ rfl (by decide)) <|
  Chain.cons (stepAt_unary 4227 _ _ _ rfl (by decide)) <|
  Chain.cons (stepAt_binary 4228 _ _ _ _ rfl (by decide) (by decide)) <|
  Chain.cons (stepAt_unary 4229 _ _ _ rfl (by decide)) <|
  Chain.cons (stepAt_unary 4230 _ _ _ rfl (by decide)) <|
  Chain.cons (stepAt_binary 4231 _ _ _ _ rfl (by decide) (by decide)) <|
  Chain.nil
theorem hostOps0_179_length : (hostOps0_179 : List (HloOp τ sig (Elt F))).length = 6 := rfl

set_option maxHeartbeats 4000000 in
/-- Operations 4204 … 4206 of the program, writing buffers 4232 … 4234. -/
theorem hostOps0_180_chain : Chain 4232 (hostOps0_180 : List (HloOp τ sig (Elt F))) :=
  Chain.cons (stepAt_unary 4232 _ _ _ rfl (by decide)) <|
  Chain.cons (stepAt_nullary 4233 _ _ rfl) <|
  Chain.cons (stepAt_nullary 4234 _ _ rfl) <|
  Chain.nil
theorem hostOps0_180_length : (hostOps0_180 : List (HloOp τ sig (Elt F))).length = 3 := rfl

set_option maxHeartbeats 4000000 in
/-- Operations 4207 … 4212 of the program, writing buffers 4235 … 4240. -/
theorem hostOps0_181_chain : Chain 4235 (hostOps0_181 : List (HloOp τ sig (Elt F))) :=
  Chain.cons (stepAt_unary 4235 _ _ _ rfl (by decide)) <|
  Chain.cons (stepAt_unary 4236 _ _ _ rfl (by decide)) <|
  Chain.cons (stepAt_binary 4237 _ _ _ _ rfl (by decide) (by decide)) <|
  Chain.cons (stepAt_unary 4238 _ _ _ rfl (by decide)) <|
  Chain.cons (stepAt_unary 4239 _ _ _ rfl (by decide)) <|
  Chain.cons (stepAt_binary 4240 _ _ _ _ rfl (by decide) (by decide)) <|
  Chain.nil
theorem hostOps0_181_length : (hostOps0_181 : List (HloOp τ sig (Elt F))).length = 6 := rfl

set_option maxHeartbeats 4000000 in
/-- Operations 4213 … 4217 of the program, writing buffers 4241 … 4245. -/
theorem hostOps0_182_chain : Chain 4241 (hostOps0_182 : List (HloOp τ sig (Elt F))) :=
  Chain.cons (stepAt_nullary 4241 _ _ rfl) <|
  Chain.cons (stepAt_unary 4242 _ _ _ rfl (by decide)) <|
  Chain.cons (stepAt_binary 4243 _ _ _ _ rfl (by decide) (by decide)) <|
  Chain.cons (stepAt_nullary 4244 _ _ rfl) <|
  Chain.cons (stepAt_nullary 4245 _ _ rfl) <|
  Chain.nil
theorem hostOps0_182_length : (hostOps0_182 : List (HloOp τ sig (Elt F))).length = 5 := rfl

set_option maxHeartbeats 4000000 in
/-- Operations 4218 … 4223 of the program, writing buffers 4246 … 4251. -/
theorem hostOps0_183_chain : Chain 4246 (hostOps0_183 : List (HloOp τ sig (Elt F))) :=
  Chain.cons (stepAt_unary 4246 _ _ _ rfl (by decide)) <|
  Chain.cons (stepAt_unary 4247 _ _ _ rfl (by decide)) <|
  Chain.cons (stepAt_binary 4248 _ _ _ _ rfl (by decide) (by decide)) <|
  Chain.cons (stepAt_unary 4249 _ _ _ rfl (by decide)) <|
  Chain.cons (stepAt_unary 4250 _ _ _ rfl (by decide)) <|
  Chain.cons (stepAt_binary 4251 _ _ _ _ rfl (by decide) (by decide)) <|
  Chain.nil
theorem hostOps0_183_length : (hostOps0_183 : List (HloOp τ sig (Elt F))).length = 6 := rfl

set_option maxHeartbeats 4000000 in
/-- Operations 4224 … 4373 of the program, writing buffers 4252 … 4401. -/
theorem hostOps0_184_chain : Chain 4252 (hostOps0_184 : List (HloOp τ sig (Elt F))) :=
  Chain.cons (stepAt_nullary 4252 _ _ rfl) <|
  Chain.cons (stepAt_unary 4253 _ _ _ rfl (by decide)) <|
  Chain.cons (stepAt_binary 4254 _ _ _ _ rfl (by decide) (by decide)) <|
  Chain.cons (stepAt_nullary 4255 _ _ rfl) <|
  Chain.cons (stepAt_unary 4256 _ _ _ rfl (by decide)) <|
  Chain.cons (stepAt_binary 4257 _ _ _ _ rfl (by decide) (by decide)) <|
  Chain.cons (stepAt_ternary 4258 _ _ _ _ _ rfl (by decide) (by decide) (by decide)) <|
  Chain.cons (stepAt_nullary 4259 _ _ rfl) <|
  Chain.cons (stepAt_unary 4260 _ _ _ rfl (by decide)) <|
  Chain.cons (stepAt_binary 4261 _ _ _ _ rfl (by decide) (by decide)) <|
  Chain.cons (stepAt_nullary 4262 _ _ rfl) <|
  Chain.cons (stepAt_unary 4263 _ _ _ rfl (by decide)) <|
  Chain.cons (stepAt_binary 4264 _ _ _ _ rfl (by decide) (by decide)) <|
  Chain.cons (stepAt_ternary 4265 _ _ _ _ _ rfl (by decide) (by decide) (by decide)) <|
  Chain.cons (stepAt_unary 4266 _ _ _ rfl (by decide)) <|
  Chain.cons (stepAt_unary 4267 _ _ _ rfl (by decide)) <|
  Chain.cons (stepAt_binary 4268 _ _ _ _ rfl (by decide) (by decide)) <|
  Chain.cons (stepAt_binary 4269 _ _ _ _ rfl (by decide) (by decide)) <|
  Chain.cons (stepAt_nullary 4270 _ _ rfl) <|
  Chain.cons (stepAt_unary 4271 _ _ _ rfl (by decide)) <|
  Chain.cons (stepAt_binary 4272 _ _ _ _ rfl (by decide) (by decide)) <|
  Chain.cons (stepAt_nullary 4273 _ _ rfl) <|
  Chain.cons (stepAt_unary 4274 _ _ _ rfl (by decide)) <|
  Chain.cons (stepAt_binary 4275 _ _ _ _ rfl (by decide) (by decide)) <|
  Chain.cons (stepAt_ternary 4276 _ _ _ _ _ rfl (by decide) (by decide) (by decide)) <|
  Chain.cons (stepAt_nullary 4277 _ _ rfl) <|
  Chain.cons (stepAt_unary 4278 _ _ _ rfl (by decide)) <|
  Chain.cons (stepAt_binary 4279 _ _ _ _ rfl (by decide) (by decide)) <|
  Chain.cons (stepAt_nullary 4280 _ _ rfl) <|
  Chain.cons (stepAt_unary 4281 _ _ _ rfl (by decide)) <|
  Chain.cons (stepAt_binary 4282 _ _ _ _ rfl (by decide) (by decide)) <|
  Chain.cons (stepAt_ternary 4283 _ _ _ _ _ rfl (by decide) (by decide) (by decide)) <|
  Chain.cons (stepAt_unary 4284 _ _ _ rfl (by decide)) <|
  Chain.cons (stepAt_unary 4285 _ _ _ rfl (by decide)) <|
  Chain.cons (stepAt_binary 4286 _ _ _ _ rfl (by decide) (by decide)) <|
  Chain.cons (stepAt_binary 4287 _ _ _ _ rfl (by decide) (by decide)) <|
  Chain.cons (stepAt_nullary 4288 _ _ rfl) <|
  Chain.cons (stepAt_unary 4289 _ _ _ rfl (by decide)) <|
  Chain.cons (stepAt_binary 4290 _ _ _ _ rfl (by decide) (by decide)) <|
  Chain.cons (stepAt_nullary 4291 _ _ rfl) <|
  Chain.cons (stepAt_unary 4292 _ _ _ rfl (by decide)) <|
  Chain.cons (stepAt_binary 4293 _ _ _ _ rfl (by decide) (by decide)) <|
  Chain.cons (stepAt_ternary 4294 _ _ _ _ _ rfl (by decide) (by decide) (by decide)) <|
  Chain.cons (stepAt_nullary 4295 _ _ rfl) <|
  Chain.cons (stepAt_unary 4296 _ _ _ rfl (by decide)) <|
  Chain.cons (stepAt_binary 4297 _ _ _ _ rfl (by decide) (by decide)) <|
  Chain.cons (stepAt_nullary 4298 _ _ rfl) <|
  Chain.cons (stepAt_unary 4299 _ _ _ rfl (by decide)) <|
  Chain.cons (stepAt_binary 4300 _ _ _ _ rfl (by decide) (by decide)) <|
  Chain.cons (stepAt_ternary 4301 _ _ _ _ _ rfl (by decide) (by decide) (by decide)) <|
  Chain.cons (stepAt_unary 4302 _ _ _ rfl (by decide)) <|
  Chain.cons (stepAt_unary 4303 _ _ _ rfl (by decide)) <|
  Chain.cons (stepAt_binary 4304 _ _ _ _ rfl (by decide) (by decide)) <|
  Chain.cons (stepAt_binary 4305 _ _ _ _ rfl (by decide) (by decide)) <|
  Chain.cons (stepAt_nullary 4306 _ _ rfl) <|
  Chain.cons (stepAt_unary 4307 _ _ _ rfl (by decide)) <|
  Chain.cons (stepAt_binary 4308 _ _ _ _ rfl (by decide) (by decide)) <|
  Chain.cons (stepAt_nullary 4309 _ _ rfl) <|
  Chain.cons (stepAt_unary 4310 _ _ _ rfl (by decide)) <|
  Chain.cons (stepAt_binary 4311 _ _ _ _ rfl (by decide) (by decide)) <|
  Chain.cons (stepAt_ternary 4312 _ _ _ _ _ rfl (by decide) (by decide) (by decide)) <|
  Chain.cons (stepAt_nullary 4313 _ _ rfl) <|
  Chain.cons (stepAt_unary 4314 _ _ _ rfl (by decide)) <|
  Chain.cons (stepAt_binary 4315 _ _ _ _ rfl (by decide) (by decide)) <|
  Chain.cons (stepAt_nullary 4316 _ _ rfl) <|
  Chain.cons (stepAt_unary 4317 _ _ _ rfl (by decide)) <|
  Chain.cons (stepAt_binary 4318 _ _ _ _ rfl (by decide) (by decide)) <|
  Chain.cons (stepAt_ternary 4319 _ _ _ _ _ rfl (by decide) (by decide) (by decide)) <|
  Chain.cons (stepAt_unary 4320 _ _ _ rfl (by decide)) <|
  Chain.cons (stepAt_unary 4321 _ _ _ rfl (by decide)) <|
  Chain.cons (stepAt_binary 4322 _ _ _ _ rfl (by decide) (by decide)) <|
  Chain.cons (stepAt_binary 4323 _ _ _ _ rfl (by decide) (by decide)) <|
  Chain.cons (stepAt_nullary 4324 _ _ rfl) <|
  Chain.cons (stepAt_unary 4325 _ _ _ rfl (by decide)) <|
  Chain.cons (stepAt_binary 4326 _ _ _ _ rfl (by decide) (by decide)) <|
  Chain.cons (stepAt_unary 4327 _ _ _ rfl (by decide)) <|
  Chain.cons (stepAt_unary 4328 _ _ _ rfl (by decide)) <|
  Chain.cons (stepAt_binary 4329 _ _ _ _ rfl (by decide) (by decide)) <|
  Chain.cons (stepAt_nullary 4330 _ _ rfl) <|
  Chain.cons (stepAt_unary 4331 _ _ _ rfl (by decide)) <|
  Chain.cons (stepAt_binary 4332 _ _ _ _ rfl (by decide) (by decide)) <|
  Chain.cons (stepAt_unary 4333 _ _ _ rfl (by decide)) <|
  Chain.cons (stepAt_unary 4334 _ _ _ rfl (by decide)) <|
  Chain.cons (stepAt_binary 4335 _ _ _ _ rfl (by decide) (by decide)) <|
  Chain.cons (stepAt_unary 4336 _ _ _ rfl (by decide)) <|
  Chain.cons (stepAt_unary 4337 _ _ _ rfl (by decide)) <|
  Chain.cons (stepAt_binary 4338 _ _ _ _ rfl (by decide) (by decide)) <|
  Chain.cons (stepAt_nullary 4339 _ _ rfl) <|
  Chain.cons (stepAt_unary 4340 _ _ _ rfl (by decide)) <|
  Chain.cons (stepAt_binary 4341 _ _ _ _ rfl (by decide) (by decide)) <|
  Chain.cons (stepAt_unary 4342 _ _ _ rfl (by decide)) <|
  Chain.cons (stepAt_unary 4343 _ _ _ rfl (by decide)) <|
  Chain.cons (stepAt_binary 4344 _ _ _ _ rfl (by decide) (by decide)) <|
  Chain.cons (stepAt_binary 4345 _ _ _ _ rfl (by decide) (by decide)) <|
  Chain.cons (stepAt_nullary 4346 _ _ rfl) <|
  Chain.cons (stepAt_unary 4347 _ _ _ rfl (by decide)) <|
  Chain.cons (stepAt_binary 4348 _ _ _ _ rfl (by decide) (by decide)) <|
  Chain.cons (stepAt_unary 4349 _ _ _ rfl (by decide)) <|
  Chain.cons (stepAt_unary 4350 _ _ _ rfl (by decide)) <|
  Chain.cons (stepAt_binary 4351 _ _ _ _ rfl (by decide) (by decide)) <|
  Chain.cons (stepAt_unary 4352 _ _ _ rfl (by decide)) <|
  Chain.cons (stepAt_unary 4353 _ _ _ rfl (by decide)) <|
  Chain.cons (stepAt_binary 4354 _ _ _ _ rfl (by decide) (by decide)) <|
  Chain.cons (stepAt_binary 4355 _ _ _ _ rfl (by decide) (by decide)) <|
  Chain.cons (stepAt_unary 4356 _ _ _ rfl (by decide)) <|
  Chain.cons (stepAt_unary 4357 _ _ _ rfl (by decide)) <|
  Chain.cons (stepAt_binary 4358 _ _ _ _ rfl (by decide) (by decide)) <|
  Chain.cons (stepAt_unary 4359 _ _ _ rfl (by decide)) <|
  Chain.cons (stepAt_unary 4360 _ _ _ rfl (by decide)) <|
  Chain.cons (stepAt_binary 4361 _ _ _ _ rfl (by decide) (by decide)) <|
  Chain.cons (stepAt_binary 4362 _ _ _ _ rfl (by decide) (by decide)) <|
  Chain.cons (stepAt_unary 4363 _ _ _ rfl (by decide)) <|
  Chain.cons (stepAt_nullary 4364 _ _ rfl) <|
  Chain.cons (stepAt_unary 4365 _ _ _ rfl (by decide)) <|
  Chain.cons (stepAt_binary 4366 _ _ _ _ rfl (by decide) (by decide)) <|
  Chain.cons (stepAt_nullary 4367 _ _ rfl) <|
  Chain.cons (stepAt_unary 4368 _ _ _ rfl (by decide)) <|
  Chain.cons (stepAt_binary 4369 _ _ _ _ rfl (by decide) (by decide)) <|
  Chain.cons (stepAt_ternary 4370 _ _ _ _ _ rfl (by decide) (by decide) (by decide)) <|
  Chain.cons (stepAt_unary 4371 _ _ _ rfl (by decide)) <|
  Chain.cons (stepAt_binary 4372 _ _ _ _ rfl (by decide) (by decide)) <|
  Chain.cons (stepAt_unary 4373 _ _ _ rfl (by decide)) <|
  Chain.cons (stepAt_reshape 4374 _ _ _ _ rfl (by decide)) <|
  Chain.cons (stepAt_nullary 4375 _ _ rfl) <|
  Chain.cons (stepAt_unary 4376 _ _ _ rfl (by decide)) <|
  Chain.cons (stepAt_binary 4377 _ _ _ _ rfl (by decide) (by decide)) <|
  Chain.cons (stepAt_nullary 4378 _ _ rfl) <|
  Chain.cons (stepAt_unary 4379 _ _ _ rfl (by decide)) <|
  Chain.cons (stepAt_binary 4380 _ _ _ _ rfl (by decide) (by decide)) <|
  Chain.cons (stepAt_nullary 4381 _ _ rfl) <|
  Chain.cons (stepAt_unary 4382 _ _ _ rfl (by decide)) <|
  Chain.cons (stepAt_binary 4383 _ _ _ _ rfl (by decide) (by decide)) <|
  Chain.cons (stepAt_unary 4384 _ _ _ rfl (by decide)) <|
  Chain.cons (stepAt_reshape 4385 _ _ _ _ rfl (by decide)) <|
  Chain.cons (stepAt_nullary 4386 _ _ rfl) <|
  Chain.cons (stepAt_unary 4387 _ _ _ rfl (by decide)) <|
  Chain.cons (stepAt_binary 4388 _ _ _ _ rfl (by decide) (by decide)) <|
  Chain.cons (stepAt_nullary 4389 _ _ rfl) <|
  Chain.cons (stepAt_unary 4390 _ _ _ rfl (by decide)) <|
  Chain.cons (stepAt_binary 4391 _ _ _ _ rfl (by decide) (by decide)) <|
  Chain.cons (stepAt_nullary 4392 _ _ rfl) <|
  Chain.cons (stepAt_unary 4393 _ _ _ rfl (by decide)) <|
  Chain.cons (stepAt_binary 4394 _ _ _ _ rfl (by decide) (by decide)) <|
  Chain.cons (stepAt_unary 4395 _ _ _ rfl (by decide)) <|
  Chain.cons (stepAt_unary 4396 _ _ _ rfl (by decide)) <|
  Chain.cons (stepAt_binary 4397 _ _ _ _ rfl (by decide) (by decide)) <|
  Chain.cons (stepAt_binary 4398 _ _ _ _ rfl (by decide) (by decide)) <|
  Chain.cons (stepAt_unary 4399 _ _ _ rfl (by decide)) <|
  Chain.cons (stepAt_nullary 4400 _ _ rfl) <|
  Chain.cons (stepAt_nullary 4401 _ _ rfl) <|
  Chain.nil
theorem hostOps0_184_length : (hostOps0_184 : List (HloOp τ sig (Elt F))).length = 150 := rfl

set_option maxHeartbeats 4000000 in
/-- Operations 4374 … 4379 of the program, writing buffers 4402 … 4407. -/
theorem hostOps0_185_chain : Chain 4402 (hostOps0_185 : List (HloOp τ sig (Elt F))) :=
  Chain.cons (stepAt_unary 4402 _ _ _ rfl (by decide)) <|
  Chain.cons (stepAt_unary 4403 _ _ _ rfl (by decide)) <|
  Chain.cons (stepAt_binary 4404 _ _ _ _ rfl (by decide) (by decide)) <|
  Chain.cons (stepAt_unary 4405 _ _ _ rfl (by decide)) <|
  Chain.cons (stepAt_unary 4406 _ _ _ rfl (by decide)) <|
  Chain.cons (stepAt_binary 4407 _ _ _ _ rfl (by decide) (by decide)) <|
  Chain.nil
theorem hostOps0_185_length : (hostOps0_185 : List (HloOp τ sig (Elt F))).length = 6 := rfl

set_option maxHeartbeats 4000000 in
/-- Operations 4380 … 4384 of the program, writing buffers 4408 … 4412. -/
theorem hostOps0_186_chain : Chain 4408 (hostOps0_186 : List (HloOp τ sig (Elt F))) :=
  Chain.cons (stepAt_nullary 4408 _ _ rfl) <|
  Chain.cons (stepAt_unary 4409 _ _ _ rfl (by decide)) <|
  Chain.cons (stepAt_binary 4410 _ _ _ _ rfl (by decide) (by decide)) <|
  Chain.cons (stepAt_nullary 4411 _ _ rfl) <|
  Chain.cons (stepAt_nullary 4412 _ _ rfl) <|
  Chain.nil
theorem hostOps0_186_length : (hostOps0_186 : List (HloOp τ sig (Elt F))).length = 5 := rfl

set_option maxHeartbeats 4000000 in
/-- Operations 4385 … 4390 of the program, writing buffers 4413 … 4418. -/
theorem hostOps0_187_chain : Chain 4413 (hostOps0_187 : List (HloOp τ sig (Elt F))) :=
  Chain.cons (stepAt_unary 4413 _ _ _ rfl (by decide)) <|
  Chain.cons (stepAt_unary 4414 _ _ _ rfl (by decide)) <|
  Chain.cons (stepAt_binary 4415 _ _ _ _ rfl (by decide) (by decide)) <|
  Chain.cons (stepAt_unary 4416 _ _ _ rfl (by decide)) <|
  Chain.cons (stepAt_unary 4417 _ _ _ rfl (by decide)) <|
  Chain.cons (stepAt_binary 4418 _ _ _ _ rfl (by decide) (by decide)) <|
  Chain.nil
theorem hostOps0_187_length : (hostOps0_187 : List (HloOp τ sig (Elt F))).length = 6 := rfl

set_option maxHeartbeats 4000000 in
/-- Operations 4391 … 4393 of the program, writing buffers 4419 … 4421. -/
theorem hostOps0_188_chain : Chain 4419 (hostOps0_188 : List (HloOp τ sig (Elt F))) :=
  Chain.cons (stepAt_unary 4419 _ _ _ rfl (by decide)) <|
  Chain.cons (stepAt_nullary 4420 _ _ rfl) <|
  Chain.cons (stepAt_nullary 4421 _ _ rfl) <|
  Chain.nil
theorem hostOps0_188_length : (hostOps0_188 : List (HloOp τ sig (Elt F))).length = 3 := rfl

set_option maxHeartbeats 4000000 in
/-- Operations 4394 … 4399 of the program, writing buffers 4422 … 4427. -/
theorem hostOps0_189_chain : Chain 4422 (hostOps0_189 : List (HloOp τ sig (Elt F))) :=
  Chain.cons (stepAt_unary 4422 _ _ _ rfl (by decide)) <|
  Chain.cons (stepAt_unary 4423 _ _ _ rfl (by decide)) <|
  Chain.cons (stepAt_binary 4424 _ _ _ _ rfl (by decide) (by decide)) <|
  Chain.cons (stepAt_unary 4425 _ _ _ rfl (by decide)) <|
  Chain.cons (stepAt_unary 4426 _ _ _ rfl (by decide)) <|
  Chain.cons (stepAt_binary 4427 _ _ _ _ rfl (by decide) (by decide)) <|
  Chain.nil
theorem hostOps0_189_length : (hostOps0_189 : List (HloOp τ sig (Elt F))).length = 6 := rfl

set_option maxHeartbeats 4000000 in
/-- Operations 4400 … 4404 of the program, writing buffers 4428 … 4432. -/
theorem hostOps0_190_chain : Chain 4428 (hostOps0_190 : List (HloOp τ sig (Elt F))) :=
  Chain.cons (stepAt_nullary 4428 _ _ rfl) <|
  Chain.cons (stepAt_unary 4429 _ _ _ rfl (by decide)) <|
  Chain.cons (stepAt_binary 4430 _ _ _ _ rfl (by decide) (by decide)) <|
  Chain.cons (stepAt_nullary 4431 _ _ rfl) <|
  Chain.cons (stepAt_nullary 4432 _ _ rfl) <|
  Chain.nil
theorem hostOps0_190_length : (hostOps0_190 : List (HloOp τ sig (Elt F))).length = 5 := rfl

set_option maxHeartbeats 4000000 in
/-- Operations 4405 … 4410 of the program, writing buffers 4433 … 4438. -/
theorem hostOps0_191_chain : Chain 4433 (hostOps0_191 : List (HloOp τ sig (Elt F))) :=
  Chain.cons (stepAt_unary 4433 _ _ _ rfl (by decide)) <|
  Chain.cons (stepAt_unary 4434 _ _ _ rfl (by decide)) <|
  Chain.cons (stepAt_binary 4435 _ _ _ _ rfl (by decide) (by decide)) <|
  Chain.cons (stepAt_unary 4436 _ _ _ rfl (by decide)) <|
  Chain.cons (stepAt_unary 4437 _ _ _ rfl (by decide)) <|
  Chain.cons (stepAt_binary 4438 _ _ _ _ rfl (by decide) (by decide)) <|
  Chain.nil
theorem hostOps0_191_length : (hostOps0_191 : List (HloOp τ sig (Elt F))).length = 6 := rfl

set_option maxHeartbeats 4000000 in
/-- Operations 4411 … 4522 of the program, writing buffers 4439 … 4550. -/
theorem hostOps0_192_chain : Chain 4439 (hostOps0_192 : List (HloOp τ sig (Elt F))) :=
  Chain.cons (stepAt_nullary 4439 _ _ rfl) <|
  Chain.cons (stepAt_unary 4440 _ _ _ rfl (by decide)) <|
  Chain.cons (stepAt_binary 4441 _ _ _ _ rfl (by decide) (by decide)) <|
  Chain.cons (stepAt_nullary 4442 _ _ rfl) <|
  Chain.cons (stepAt_unary 4443 _ _ _ rfl (by decide)) <|
  Chain.cons (stepAt_binary 4444 _ _ _ _ rfl (by decide) (by decide)) <|
  Chain.cons (stepAt_ternary 4445 _ _ _ _ _ rfl (by decide) (by decide) (by decide)) <|
  Chain.cons (stepAt_nullary 4446 _ _ rfl) <|
  Chain.cons (stepAt_unary 4447 _ _ _ rfl (by decide)) <|
  Chain.cons (stepAt_binary 4448 _ _ _ _ rfl (by decide) (by decide)) <|
  Chain.cons (stepAt_nullary 4449 _ _ rfl) <|
  Chain.cons (stepAt_unary 4450 _ _ _ rfl (by decide)) <|
  Chain.cons (stepAt_binary 4451 _ _ _ _ rfl (by decide) (by decide)) <|
  Chain.cons (stepAt_ternary 4452 _ _ _ _ _ rfl (by decide) (by decide) (by decide)) <|
  Chain.cons (stepAt_unary 4453 _ _ _ rfl (by decide)) <|
  Chain.cons (stepAt_unary 4454 _ _ _ rfl (by decide)) <|
  Chain.cons (stepAt_binary 4455 _ _ _ _ rfl (by decide) (by decide)) <|
  Chain.cons (stepAt_binary 4456 _ _ _ _ rfl (by decide) (by decide)) <|
  Chain.cons (stepAt_nullary 4457 _ _ rfl) <|
  Chain.cons (stepAt_unary 4458 _ _ _ rfl (by decide)) <|
  Chain.cons (stepAt_binary 4459 _ _ _ _ rfl (by decide) (by decide)) <|
  Chain.cons (stepAt_nullary 4460 _ _ rfl) <|
  Chain.cons (stepAt_unary 4461 _ _ _ rfl (by decide)) <|
  Chain.cons (stepAt_binary 4462 _ _ _ _ rfl (by decide) (by decide)) <|
  Chain.cons (stepAt_ternary 4463 _ _ _ _ _ rfl (by decide) (by decide) (by decide)) <|
  Chain.cons (stepAt_nullary 4464 _ _ rfl) <|
  Chain.cons (stepAt_unary 4465 _ _ _ rfl (by decide)) <|
  Chain.cons (stepAt_binary 4466 _ _ _ _ rfl (by decide) (by decide)) <|
  Chain.cons (stepAt_nullary 4467 _ _ rfl) <|
  Chain.cons (stepAt_unary 4468 _ _ _ rfl (by decide)) <|
  Chain.cons (stepAt_binary 4469 _ _ _ _ rfl (by decide) (by decide)) <|
  Chain.cons (stepAt_ternary 4470 _ _ _ _ _ rfl (by decide) (by decide) (by decide)) <|
  Chain.cons (stepAt_unary 4471 _ _ _ rfl (by decide)) <|
  Chain.cons (stepAt_unary 4472 _ _ _ rfl (by decide)) <|
  Chain.cons (stepAt_binary 4473 _ _ _ _ rfl (by decide) (by decide)) <|
  Chain.cons (stepAt_binary 4474 _ _ _ _ rfl (by decide) (by decide)) <|
  Chain.cons (stepAt_nullary 4475 _ _ rfl) <|
  Chain.cons (stepAt_unary 4476 _ _ _ rfl (by decide)) <|
  Chain.cons (stepAt_binary 4477 _ _ _ _ rfl (by decide) (by decide)) <|
  Chain.cons (stepAt_nullary 4478 _ _ rfl) <|
  Chain.cons (stepAt_unary 4479 _ _ _ rfl (by decide)) <|
  Chain.cons (stepAt_binary 4480 _ _ _ _ rfl (by decide) (by decide)) <|
  Chain.cons (stepAt_ternary 4481 _ _ _ _ _ rfl (by decide) (by decide) (by decide)) <|
  Chain.cons (stepAt_nullary 4482 _ _ rfl) <|
  Chain.cons (stepAt_unary 4483 _ _ _ rfl (by decide)) <|
  Chain.cons (stepAt_binary 4484 _ _ _ _ rfl (by decide) (by decide)) <|
  Chain.cons (stepAt_nullary 4485 _ _ rfl) <|
  Chain.cons (stepAt_unary 4486 _ _ _ rfl (by decide)) <|
  Chain.cons (stepAt_binary 4487 _ _ _ _ rfl (by decide) (by decide)) <|
  Chain.cons (stepAt_ternary 4488 _ _ _ _ _ rfl (by decide) (by decide) (by decide)) <|
  Chain.cons (stepAt_unary 4489 _ _ _ rfl (by decide)) <|
  Chain.cons (stepAt_unary 4490 _ _ _ rfl (by decide)) <|
  Chain.cons (stepAt_binary 4491 _ _ _ _ rfl (by decide) (by decide)) <|
  Chain.cons (stepAt_binary 4492 _ _ _ _ rfl (by decide) (by decide)) <|
  Chain.cons (stepAt_nullary 4493 _ _ rfl) <|
  Chain.cons (stepAt_unary 4494 _ _ _ rfl (by decide)) <|
  Chain.cons (stepAt_binary 4495 _ _ _ _ rfl (by decide) (by decide)) <|
  Chain.cons (stepAt_nullary 4496 _ _ rfl) <|
  Chain.cons (stepAt_unary 4497 _ _ _ rfl (by decide)) <|
  Chain.cons (stepAt_binary 4498 _ _ _ _ rfl (by decide) (by decide)) <|
  Chain.cons (stepAt_ternary 4499 _ _ _ _ _ rfl (by decide) (by decide) (by decide)) <|
  Chain.cons (stepAt_nullary 4500 _ _ rfl) <|
  Chain.cons (stepAt_unary 4501 _ _ _ rfl (by decide)) <|
  Chain.cons (stepAt_binary 4502 _ _ _ _ rfl (by decide) (by decide)) <|
  Chain.cons (stepAt_nullary 4503 _ _ rfl) <|
  Chain.cons (stepAt_unary 4504 _ _ _ rfl (by decide)) <|
  Chain.cons (stepAt_binary 4505 _ _ _ _ rfl (by decide) (by decide)) <|
  Chain.cons (stepAt_ternary 4506 _ _ _ _ _ rfl (by decide) (by decide) (by decide)) <|
  Chain.cons (stepAt_unary 4507 _ _ _ rfl (by decide)) <|
  Chain.cons (stepAt_unary 4508 _ _ _ rfl (by decide)) <|
  Chain.cons (stepAt_binary 4509 _ _ _ _ rfl (by decide) (by decide)) <|
  Chain.cons (stepAt_binary 4510 _ _ _ _ rfl (by decide) (by decide)) <|
  Chain.cons (stepAt_nullary 4511 _ _ rfl) <|
  Chain.cons (stepAt_unary 4512 _ _ _ rfl (by decide)) <|
  Chain.cons (stepAt_binary 4513 _ _ _ _ rfl (by decide) (by decide)) <|
  Chain.cons (stepAt_unary 4514 _ _ _ rfl (by decide)) <|
  Chain.cons (stepAt_unary 4515 _ _ _ rfl (by decide)) <|
  Chain.cons (stepAt_binary 4516 _ _ _ _ rfl (by decide) (by decide)) <|
  Chain.cons (stepAt_nullary 4517 _ _ rfl) <|
  Chain.cons (stepAt_unary 4518 _ _ _ rfl (by decide)) <|
  Chain.cons (stepAt_binary 4519 _ _ _ _ rfl (by decide) (by decide)) <|
  Chain.cons (stepAt_unary 4520 _ _ _ rfl (by decide)) <|
  Chain.cons (stepAt_unary 4521 _ _ _ rfl (by decide)) <|
  Chain.cons (stepAt_binary 4522 _ _ _ _ rfl (by decide) (by decide)) <|
  Chain.cons (stepAt_unary 4523 _ _ _ rfl (by decide)) <|
  Chain.cons (stepAt_unary 4524 _ _ _ rfl (by decide)) <|
  Chain.cons (stepAt_binary 4525 _ _ _ _ rfl (by decide) (by decide)) <|
  Chain.cons (stepAt_nullary 4526 _ _ rfl) <|
  Chain.cons (stepAt_unary 4527 _ _ _ rfl (by decide)) <|
  Chain.cons (stepAt_binary 4528 _ _ _ _ rfl (by decide) (by decide)) <|
  Chain.cons (stepAt_unary 4529 _ _ _ rfl (by decide)) <|
  Chain.cons (stepAt_unary 4530 _ _ _ rfl (by decide)) <|
  Chain.cons (stepAt_binary 4531 _ _ _ _ rfl (by decide) (by decide)) <|
  Chain.cons (stepAt_binary 4532 _ _ _ _ rfl (by decide) (by decide)) <|
  Chain.cons (stepAt_nullary 4533 _ _ rfl) <|
  Chain.cons (stepAt_unary 4534 _ _ _ rfl (by decide)) <|
  Chain.cons (stepAt_binary 4535 _ _ _ _ rfl (by decide) (by decide)) <|
  Chain.cons (stepAt_unary 4536 _ _ _ rfl (by decide)) <|
  Chain.cons (stepAt_unary 4537 _ _ _ rfl (by decide)) <|
  Chain.cons (stepAt_binary 4538 _ _ _ _ rfl (by decide) (by decide)) <|
  Chain.cons (stepAt_unary 4539 _ _ _ rfl (by decide)) <|
  Chain.cons (stepAt_unary 4540 _ _ _ rfl (by decide)) <|
  Chain.cons (stepAt_binary 4541 _ _ _ _ rfl (by decide) (by decide)) <|
  Chain.cons (stepAt_binary 4542 _ _ _ _ rfl (by decide) (by decide)) <|
  Chain.cons (stepAt_unary 4543 _ _ _ rfl (by decide)) <|
  Chain.cons (stepAt_unary 4544 _ _ _ rfl (by decide)) <|
  Chain.cons (stepAt_binary 4545 _ _ _ _ rfl (by decide) (by decide)) <|
  Chain.cons (stepAt_unary 4546 _ _ _ rfl (by decide)) <|
  Chain.cons (stepAt_unary 4547 _ _ _ rfl (by decide)) <|
  Chain.cons (stepAt_binary 4548 _ _ _ _ rfl (by decide) (by decide)) <|
  Chain.cons (stepAt_binary 4549 _ _ _ _ rfl (by decide) (by decide)) <|
  Chain.cons (stepAt_unary 4550 _ _ _ rfl (by decide)) <|
  Chain.nil
theorem hostOps0_192_length : (hostOps0_192 : List (HloOp τ sig (Elt F))).length = 112 := rfl

end Cert.Kernel.Stretch

end
-- ==== Proof.KBStretchAll.lean ====
/- All of the program's host operations, the listed pieces one after the other, are ONE single-assignment line starting at
   buffer 28 (the first buffer after the 28 arguments): each piece is such a line and starts where the one before ends. -/
import proofs.«133805_j10187662426200_2_alg».proof.Proof.KBStretch0
import proofs.«133805_j10187662426200_2_alg».proof.Proof.KBStretch1
import proofs.«133805_j10187662426200_2_alg».proof.Proof.KBStretch2
import proofs.«133805_j10187662426200_2_alg».proof.Proof.KBStretch3
import proofs.«133805_j10187662426200_2_alg».proof.Proof.KBStretch4

set_option maxRecDepth 65536

noncomputable section

namespace Cert.Kernel.Stretch

open Cert.Kernel Cert.Kernel.Gen Idealize.ShloMosaic Idealize.ShloMosaic.TcCoe Idealize.SL.Sem Idealize.ShloMosaic.StableHlo Cert.HostFold

variable {F : FTy → Type} [FloatOps F]

/-- The pieces, in order. -/
abbrev pieces : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147, hostOps0_148, hostOps0_149, hostOps0_150, hostOps0_151, hostOps0_152, hostOps0_153, hostOps0_154, hostOps0_155, hostOps0_156, hostOps0_157, hostOps0_158, hostOps0_159, hostOps0_160, hostOps0_161, hostOps0_162, hostOps0_163, hostOps0_164, hostOps0_165, hostOps0_166, hostOps0_167, hostOps0_168, hostOps0_169, hostOps0_170, hostOps0_171, hostOps0_172, hostOps0_173, hostOps0_174, hostOps0_175, hostOps0_176, hostOps0_177, hostOps0_178, hostOps0_179, hostOps0_180, hostOps0_181, hostOps0_182, hostOps0_183, hostOps0_184, hostOps0_185, hostOps0_186, hostOps0_187, hostOps0_188, hostOps0_189, hostOps0_190, hostOps0_191, hostOps0_192]

set_option maxHeartbeats 4000000 in
theorem all_chain : Chain 28 (List.flatten pieces : List (HloOp τ sig (Elt F))) := by
  show Chain 28 (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24 ++ (hostOps0_25 ++ (hostOps0_26 ++ (hostOps0_27 ++ (hostOps0_28 ++ (hostOps0_29 ++ (hostOps0_30 ++ (hostOps0_31 ++ (hostOps0_32 ++ (hostOps0_33 ++ (hostOps0_34 ++ (hostOps0_35 ++ (hostOps0_36 ++ (hostOps0_37 ++ (hostOps0_38 ++ (hostOps0_39 ++ (hostOps0_40 ++ (hostOps0_41 ++ (hostOps0_42 ++ (hostOps0_43 ++ (hostOps0_44 ++ (hostOps0_45 ++ (hostOps0_46 ++ (hostOps0_47 ++ (hostOps0_48 ++ (hostOps0_49 ++ (hostOps0_50 ++ (hostOps0_51 ++ (hostOps0_52 ++ (hostOps0_53 ++ (hostOps0_54 ++ (hostOps0_55 ++ (hostOps0_56 ++ (hostOps0_57 ++ (hostOps0_58 ++ (hostOps0_59 ++ (hostOps0_60 ++ (hostOps0_61 ++ (hostOps0_62 ++ (hostOps0_63 ++ (hostOps0_64 ++ (hostOps0_65 ++ (hostOps0_66 ++ (hostOps0_67 ++ (hostOps0_68 ++ (hostOps0_69 ++ (hostOps0_70 ++ (hostOps0_71 ++ (hostOps0_72 ++ (hostOps0_73 ++ (hostOps0_74 ++ (hostOps0_75 ++ (hostOps0_76 ++ (hostOps0_77 ++ (hostOps0_78 ++ (hostOps0_79 ++ (hostOps0_80 ++ (hostOps0_81 ++ (hostOps0_82 ++ (hostOps0_83 ++ (hostOps0_84 ++ (hostOps0_85 ++ (hostOps0_86 ++ (hostOps0_87 ++ (hostOps0_88 ++ (hostOps0_89 ++ (hostOps0_90 ++ (hostOps0_91 ++ (hostOps0_92 ++ (hostOps0_93 ++ (hostOps0_94 ++ (hostOps0_95 ++ (hostOps0_96 ++ (hostOps0_97 ++ (hostOps0_98 ++ (hostOps0_99 ++ (hostOps0_100 ++ (hostOps0_101 ++ (hostOps0_102 ++ (hostOps0_103 ++ (hostOps0_104 ++ (hostOps0_105 ++ (hostOps0_106 ++ (hostOps0_107 ++ (hostOps0_108 ++ (hostOps0_109 ++ (hostOps0_110 ++ (hostOps0_111 ++ (hostOps0_112 ++ (hostOps0_113 ++ (hostOps0_114 ++ (hostOps0_115 ++ (hostOps0_116 ++ (hostOps0_117 ++ (hostOps0_118 ++ (hostOps0_119 ++ (hostOps0_120 ++ (hostOps0_121 ++ (hostOps0_122 ++ (hostOps0_123 ++ (hostOps0_124 ++ (hostOps0_125 ++ (hostOps0_126 ++ (hostOps0_127 ++ (hostOps0_128 ++ (hostOps0_129 ++ (hostOps0_130 ++ (hostOps0_131 ++ (hostOps0_132 ++ (hostOps0_133 ++ (hostOps0_134 ++ (hostOps0_135 ++ (hostOps0_136 ++ (hostOps0_137 ++ (hostOps0_138 ++ (hostOps0_139 ++ (hostOps0_140 ++ (hostOps0_141 ++ (hostOps0_142 ++ (hostOps0_143 ++ (hostOps0_144 ++ (hostOps0_145 ++ (hostOps0_146 ++ (hostOps0_147 ++ (hostOps0_148 ++ (hostOps0_149 ++ (hostOps0_150 ++ (hostOps0_151 ++ (hostOps0_152 ++ (hostOps0_153 ++ (hostOps0_154 ++ (hostOps0_155 ++ (hostOps0_156 ++ (hostOps0_157 ++ (hostOps0_158 ++ (hostOps0_159 ++ (hostOps0_160 ++ (hostOps0_161 ++ (hostOps0_162 ++ (hostOps0_163 ++ (hostOps0_164 ++ (hostOps0_165 ++ (hostOps0_166 ++ (hostOps0_167 ++ (hostOps0_168 ++ (hostOps0_169 ++ (hostOps0_170 ++ (hostOps0_171 ++ (hostOps0_172 ++ (hostOps0_173 ++ (hostOps0_174 ++ (hostOps0_175 ++ (hostOps0_176 ++ (hostOps0_177 ++ (hostOps0_178 ++ (hostOps0_179 ++ (hostOps0_180 ++ (hostOps0_181 ++ (hostOps0_182 ++ (hostOps0_183 ++ (hostOps0_184 ++ (hostOps0_185 ++ (hostOps0_186 ++ (hostOps0_187 ++ (hostOps0_188 ++ (hostOps0_189 ++ (hostOps0_190 ++ (hostOps0_191 ++ (hostOps0_192 ++ [])))))))))))))))))))))))))))))))))))))))))))))))))))))))))))))))))))))))))))))))))))))))))))))))))))))))))))))))))))))))))))))))))))))))))))))))))))))))))))))))))))))))))))))))))))))))))))))))))
  exact
    Chain.append' hostOps0_chain hostOps0_length rfl <|
    Chain.append' hostOps0_1_chain hostOps0_1_length rfl <|
    Chain.append' hostOps0_2_chain hostOps0_2_length rfl <|
    Chain.append' hostOps0_3_chain hostOps0_3_length rfl <|
    Chain.append' hostOps0_4_chain hostOps0_4_length rfl <|
    Chain.append' hostOps0_5_chain hostOps0_5_length rfl <|
    Chain.append' hostOps0_6_chain hostOps0_6_length rfl <|
    Chain.append' hostOps0_7_chain hostOps0_7_length rfl <|
    Chain.append' hostOps0_8_chain hostOps0_8_length rfl <|
    Chain.append' hostOps0_9_chain hostOps0_9_length rfl <|
    Chain.append' hostOps0_10_chain hostOps0_10_length rfl <|
    Chain.append' hostOps0_11_chain hostOps0_11_length rfl <|
    Chain.append' hostOps0_12_chain hostOps0_12_length rfl <|
    Chain.append' hostOps0_13_chain hostOps0_13_length rfl <|
    Chain.append' hostOps0_14_chain hostOps0_14_length rfl <|
    Chain.append' hostOps0_15_chain hostOps0_15_length rfl <|
    Chain.append' hostOps0_16_chain hostOps0_16_length rfl <|
    Chain.append' hostOps0_17_chain hostOps0_17_length rfl <|
    Chain.append' hostOps0_18_chain hostOps0_18_length rfl <|
    Chain.append' hostOps0_19_chain hostOps0_19_length rfl <|
    Chain.append' hostOps0_20_chain hostOps0_20_length rfl <|
    Chain.append' hostOps0_21_chain hostOps0_21_length rfl <|
    Chain.append' hostOps0_22_chain hostOps0_22_length rfl <|
    Chain.append' hostOps0_23_chain hostOps0_23_length rfl <|
    Chain.append' hostOps0_24_chain hostOps0_24_length rfl <|
    Chain.append' hostOps0_25_chain hostOps0_25_length rfl <|
    Chain.append' hostOps0_26_chain hostOps0_26_length rfl <|
    Chain.append' hostOps0_27_chain hostOps0_27_length rfl <|
    Chain.append' hostOps0_28_chain hostOps0_28_length rfl <|
    Chain.append' hostOps0_29_chain hostOps0_29_length rfl <|
    Chain.append' hostOps0_30_chain hostOps0_30_length rfl <|
    Chain.append' hostOps0_31_chain hostOps0_31_length rfl <|
    Chain.append' hostOps0_32_chain hostOps0_32_length rfl <|
    Chain.append' hostOps0_33_chain hostOps0_33_length rfl <|
    Chain.append' hostOps0_34_chain hostOps0_34_length rfl <|
    Chain.append' hostOps0_35_chain hostOps0_35_length rfl <|
    Chain.append' hostOps0_36_chain hostOps0_36_length rfl <|
    Chain.append' hostOps0_37_chain hostOps0_37_length rfl <|
    Chain.append' hostOps0_38_chain hostOps0_38_length rfl <|
    Chain.append' hostOps0_39_chain hostOps0_39_length rfl <|
    Chain.append' hostOps0_40_chain hostOps0_40_length rfl <|
    Chain.append' hostOps0_41_chain hostOps0_41_length rfl <|
    Chain.append' hostOps0_42_chain hostOps0_42_length rfl <|
    Chain.append' hostOps0_43_chain hostOps0_43_length rfl <|
    Chain.append' hostOps0_44_chain hostOps0_44_length rfl <|
    Chain.append' hostOps0_45_chain hostOps0_45_length rfl <|
    Chain.append' hostOps0_46_chain hostOps0_46_length rfl <|
    Chain.append' hostOps0_47_chain hostOps0_47_length rfl <|
    Chain.append' hostOps0_48_chain hostOps0_48_length rfl <|
    Chain.append' hostOps0_49_chain hostOps0_49_length rfl <|
    Chain.append' hostOps0_50_chain hostOps0_50_length rfl <|
    Chain.append' hostOps0_51_chain hostOps0_51_length rfl <|
    Chain.append' hostOps0_52_chain hostOps0_52_length rfl <|
    Chain.append' hostOps0_53_chain hostOps0_53_length rfl <|
    Chain.append' hostOps0_54_chain hostOps0_54_length rfl <|
    Chain.append' hostOps0_55_chain hostOps0_55_length rfl <|
    Chain.append' hostOps0_56_chain hostOps0_56_length rfl <|
    Chain.append' hostOps0_57_chain hostOps0_57_length rfl <|
    Chain.append' hostOps0_58_chain hostOps0_58_length rfl <|
    Chain.append' hostOps0_59_chain hostOps0_59_length rfl <|
    Chain.append' hostOps0_60_chain hostOps0_60_length rfl <|
    Chain.append' hostOps0_61_chain hostOps0_61_length rfl <|
    Chain.append' hostOps0_62_chain hostOps0_62_length rfl <|
    Chain.append' hostOps0_63_chain hostOps0_63_length rfl <|
    Chain.append' hostOps0_64_chain hostOps0_64_length rfl <|
    Chain.append' hostOps0_65_chain hostOps0_65_length rfl <|
    Chain.append' hostOps0_66_chain hostOps0_66_length rfl <|
    Chain.append' hostOps0_67_chain hostOps0_67_length rfl <|
    Chain.append' hostOps0_68_chain hostOps0_68_length rfl <|
    Chain.append' hostOps0_69_chain hostOps0_69_length rfl <|
    Chain.append' hostOps0_70_chain hostOps0_70_length rfl <|
    Chain.append' hostOps0_71_chain hostOps0_71_length rfl <|
    Chain.append' hostOps0_72_chain hostOps0_72_length rfl <|
    Chain.append' hostOps0_73_chain hostOps0_73_length rfl <|
    Chain.append' hostOps0_74_chain hostOps0_74_length rfl <|
    Chain.append' hostOps0_75_chain hostOps0_75_length rfl <|
    Chain.append' hostOps0_76_chain hostOps0_76_length rfl <|
    Chain.append' hostOps0_77_chain hostOps0_77_length rfl <|
    Chain.append' hostOps0_78_chain hostOps0_78_length rfl <|
    Chain.append' hostOps0_79_chain hostOps0_79_length rfl <|
    Chain.append' hostOps0_80_chain hostOps0_80_length rfl <|
    Chain.append' hostOps0_81_chain hostOps0_81_length rfl <|
    Chain.append' hostOps0_82_chain hostOps0_82_length rfl <|
    Chain.append' hostOps0_83_chain hostOps0_83_length rfl <|
    Chain.append' hostOps0_84_chain hostOps0_84_length rfl <|
    Chain.append' hostOps0_85_chain hostOps0_85_length rfl <|
    Chain.append' hostOps0_86_chain hostOps0_86_length rfl <|
    Chain.append' hostOps0_87_chain hostOps0_87_length rfl <|
    Chain.append' hostOps0_88_chain hostOps0_88_length rfl <|
    Chain.append' hostOps0_89_chain hostOps0_89_length rfl <|
    Chain.append' hostOps0_90_chain hostOps0_90_length rfl <|
    Chain.append' hostOps0_91_chain hostOps0_91_length rfl <|
    Chain.append' hostOps0_92_chain hostOps0_92_length rfl <|
    Chain.append' hostOps0_93_chain hostOps0_93_length rfl <|
    Chain.append' hostOps0_94_chain hostOps0_94_length rfl <|
    Chain.append' hostOps0_95_chain hostOps0_95_length rfl <|
    Chain.append' hostOps0_96_chain hostOps0_96_length rfl <|
    Chain.append' hostOps0_97_chain hostOps0_97_length rfl <|
    Chain.append' hostOps0_98_chain hostOps0_98_length rfl <|
    Chain.append' hostOps0_99_chain hostOps0_99_length rfl <|
    Chain.append' hostOps0_100_chain hostOps0_100_length rfl <|
    Chain.append' hostOps0_101_chain hostOps0_101_length rfl <|
    Chain.append' hostOps0_102_chain hostOps0_102_length rfl <|
    Chain.append' hostOps0_103_chain hostOps0_103_length rfl <|
    Chain.append' hostOps0_104_chain hostOps0_104_length rfl <|
    Chain.append' hostOps0_105_chain hostOps0_105_length rfl <|
    Chain.append' hostOps0_106_chain hostOps0_106_length rfl <|
    Chain.append' hostOps0_107_chain hostOps0_107_length rfl <|
    Chain.append' hostOps0_108_chain hostOps0_108_length rfl <|
    Chain.append' hostOps0_109_chain hostOps0_109_length rfl <|
    Chain.append' hostOps0_110_chain hostOps0_110_length rfl <|
    Chain.append' hostOps0_111_chain hostOps0_111_length rfl <|
    Chain.append' hostOps0_112_chain hostOps0_112_length rfl <|
    Chain.append' hostOps0_113_chain hostOps0_113_length rfl <|
    Chain.append' hostOps0_114_chain hostOps0_114_length rfl <|
    Chain.append' hostOps0_115_chain hostOps0_115_length rfl <|
    Chain.append' hostOps0_116_chain hostOps0_116_length rfl <|
    Chain.append' hostOps0_117_chain hostOps0_117_length rfl <|
    Chain.append' hostOps0_118_chain hostOps0_118_length rfl <|
    Chain.append' hostOps0_119_chain hostOps0_119_length rfl <|
    Chain.append' hostOps0_120_chain hostOps0_120_length rfl <|
    Chain.append' hostOps0_121_chain hostOps0_121_length rfl <|
    Chain.append' hostOps0_122_chain hostOps0_122_length rfl <|
    Chain.append' hostOps0_123_chain hostOps0_123_length rfl <|
    Chain.append' hostOps0_124_chain hostOps0_124_length rfl <|
    Chain.append' hostOps0_125_chain hostOps0_125_length rfl <|
    Chain.append' hostOps0_126_chain hostOps0_126_length rfl <|
    Chain.append' hostOps0_127_chain hostOps0_127_length rfl <|
    Chain.append' hostOps0_128_chain hostOps0_128_length rfl <|
    Chain.append' hostOps0_129_chain hostOps0_129_length rfl <|
    Chain.append' hostOps0_130_chain hostOps0_130_length rfl <|
    Chain.append' hostOps0_131_chain hostOps0_131_length rfl <|
    Chain.append' hostOps0_132_chain hostOps0_132_length rfl <|
    Chain.append' hostOps0_133_chain hostOps0_133_length rfl <|
    Chain.append' hostOps0_134_chain hostOps0_134_length rfl <|
    Chain.append' hostOps0_135_chain hostOps0_135_length rfl <|
    Chain.append' hostOps0_136_chain hostOps0_136_length rfl <|
    Chain.append' hostOps0_137_chain hostOps0_137_length rfl <|
    Chain.append' hostOps0_138_chain hostOps0_138_length rfl <|
    Chain.append' hostOps0_139_chain hostOps0_139_length rfl <|
    Chain.append' hostOps0_140_chain hostOps0_140_length rfl <|
    Chain.append' hostOps0_141_chain hostOps0_141_length rfl <|
    Chain.append' hostOps0_142_chain hostOps0_142_length rfl <|
    Chain.append' hostOps0_143_chain hostOps0_143_length rfl <|
    Chain.append' hostOps0_144_chain hostOps0_144_length rfl <|
    Chain.append' hostOps0_145_chain hostOps0_145_length rfl <|
    Chain.append' hostOps0_146_chain hostOps0_146_length rfl <|
    Chain.append' hostOps0_147_chain hostOps0_147_length rfl <|
    Chain.append' hostOps0_148_chain hostOps0_148_length rfl <|
    Chain.append' hostOps0_149_chain hostOps0_149_length rfl <|
    Chain.append' hostOps0_150_chain hostOps0_150_length rfl <|
    Chain.append' hostOps0_151_chain hostOps0_151_length rfl <|
    Chain.append' hostOps0_152_chain hostOps0_152_length rfl <|
    Chain.append' hostOps0_153_chain hostOps0_153_length rfl <|
    Chain.append' hostOps0_154_chain hostOps0_154_length rfl <|
    Chain.append' hostOps0_155_chain hostOps0_155_length rfl <|
    Chain.append' hostOps0_156_chain hostOps0_156_length rfl <|
    Chain.append' hostOps0_157_chain hostOps0_157_length rfl <|
    Chain.append' hostOps0_158_chain hostOps0_158_length rfl <|
    Chain.append' hostOps0_159_chain hostOps0_159_length rfl <|
    Chain.append' hostOps0_160_chain hostOps0_160_length rfl <|
    Chain.append' hostOps0_161_chain hostOps0_161_length rfl <|
    Chain.append' hostOps0_162_chain hostOps0_162_length rfl <|
    Chain.append' hostOps0_163_chain hostOps0_163_length rfl <|
    Chain.append' hostOps0_164_chain hostOps0_164_length rfl <|
    Chain.append' hostOps0_165_chain hostOps0_165_length rfl <|
    Chain.append' hostOps0_166_chain hostOps0_166_length rfl <|
    Chain.append' hostOps0_167_chain hostOps0_167_length rfl <|
    Chain.append' hostOps0_168_chain hostOps0_168_length rfl <|
    Chain.append' hostOps0_169_chain hostOps0_169_length rfl <|
    Chain.append' hostOps0_170_chain hostOps0_170_length rfl <|
    Chain.append' hostOps0_171_chain hostOps0_171_length rfl <|
    Chain.append' hostOps0_172_chain hostOps0_172_length rfl <|
    Chain.append' hostOps0_173_chain hostOps0_173_length rfl <|
    Chain.append' hostOps0_174_chain hostOps0_174_length rfl <|
    Chain.append' hostOps0_175_chain hostOps0_175_length rfl <|
    Chain.append' hostOps0_176_chain hostOps0_176_length rfl <|
    Chain.append' hostOps0_177_chain hostOps0_177_length rfl <|
    Chain.append' hostOps0_178_chain hostOps0_178_length rfl <|
    Chain.append' hostOps0_179_chain hostOps0_179_length rfl <|
    Chain.append' hostOps0_180_chain hostOps0_180_length rfl <|
    Chain.append' hostOps0_181_chain hostOps0_181_length rfl <|
    Chain.append' hostOps0_182_chain hostOps0_182_length rfl <|
    Chain.append' hostOps0_183_chain hostOps0_183_length rfl <|
    Chain.append' hostOps0_184_chain hostOps0_184_length rfl <|
    Chain.append' hostOps0_185_chain hostOps0_185_length rfl <|
    Chain.append' hostOps0_186_chain hostOps0_186_length rfl <|
    Chain.append' hostOps0_187_chain hostOps0_187_length rfl <|
    Chain.append' hostOps0_188_chain hostOps0_188_length rfl <|
    Chain.append' hostOps0_189_chain hostOps0_189_length rfl <|
    Chain.append' hostOps0_190_chain hostOps0_190_length rfl <|
    Chain.append' hostOps0_191_chain hostOps0_191_length rfl <|
    Chain.append' hostOps0_192_chain hostOps0_192_length rfl <|
    Chain.nil

end Cert.Kernel.Stretch

end
-- ==== Proof.KIStretch0.lean ====
/- The stretches of @main's host operations before the kernel's region are single-assignment lines: the operations of a
   stretch write the consecutive buffers numbered from the stated bound, each reading only buffers of smaller numbers. -/
import proofs.«133805_j10187662426200_2_alg».proof.Proof.Gen.KernelIdeal.Launch
import proofs.«133805_j10187662426200_2_alg».proof.Proof.HostChain

set_option maxRecDepth 65536

noncomputable section

namespace Cert.KernelIdeal.Stretch

open Cert.KernelIdeal Cert.KernelIdeal.Gen Idealize.ShloMosaic Idealize.ShloMosaic.TcCoe Idealize.SL.Sem Idealize.ShloMosaic.StableHlo Cert.HostFold

variable {F : FTy → Type} [FloatOps F]

set_option maxHeartbeats 4000000 in
/-- Operations 0 … 72 of the program, writing buffers 28 … 100. -/
theorem hostOps0_chain : Chain 28 (hostOps0 : List (HloOp τ sig (Elt F))) :=
  Chain.cons (stepAt_nullary 28 _ _ rfl) <|
  Chain.cons (stepAt_nullary 29 _ _ rfl) <|
  Chain.cons (stepAt_nullary 30 _ _ rfl) <|
  Chain.cons (stepAt_nullary 31 _ _ rfl) <|
  Chain.cons (stepAt_nullary 32 _ _ rfl) <|
  Chain.cons (stepAt_nullary 33 _ _ rfl) <|
  Chain.cons (stepAt_nullary 34 _ _ rfl) <|
  Chain.cons (stepAt_nullary 35 _ _ rfl) <|
  Chain.cons (stepAt_nullary 36 _ _ rfl) <|
  Chain.cons (stepAt_nullary 37 _ _ rfl) <|
  Chain.cons (stepAt_nullary 38 _ _ rfl) <|
  Chain.cons (stepAt_nullary 39 _ _ rfl) <|
  Chain.cons (stepAt_nullary 40 _ _ rfl) <|
  Chain.cons (stepAt_nullary 41 _ _ rfl) <|
  Chain.cons (stepAt_nullary 42 _ _ rfl) <|
  Chain.cons (stepAt_nullary 43 _ _ rfl) <|
  Chain.cons (stepAt_nullary 44 _ _ rfl) <|
  Chain.cons (stepAt_nullary 45 _ _ rfl) <|
  Chain.cons (stepAt_nullary 46 _ _ rfl) <|
  Chain.cons (stepAt_nullary 47 _ _ rfl) <|
  Chain.cons (stepAt_nullary 48 _ _ rfl) <|
  Chain.cons (stepAt_nullary 49 _ _ rfl) <|
  Chain.cons (stepAt_nullary 50 _ _ rfl) <|
  Chain.cons (stepAt_nullary 51 _ _ rfl) <|
  Chain.cons (stepAt_nullary 52 _ _ rfl) <|
  Chain.cons (stepAt_unary 53 _ _ _ rfl (by decide)) <|
  Chain.cons (stepAt_binary 54 _ _ _ _ rfl (by decide) (by decide)) <|
  Chain.cons (stepAt_nullary 55 _ _ rfl) <|
  Chain.cons (stepAt_unary 56 _ _ _ rfl (by decide)) <|
  Chain.cons (stepAt_binary 57 _ _ _ _ rfl (by decide) (by decide)) <|
  Chain.cons (stepAt_unary 58 _ _ _ rfl (by decide)) <|
  Chain.cons (stepAt_unary 59 _ _ _ rfl (by decide)) <|
  Chain.cons (stepAt_unary 60 _ _ _ rfl (by decide)) <|
  Chain.cons (stepAt_binary 61 _ _ _ _ rfl (by decide) (by decide)) <|
  Chain.cons (stepAt_reshape 62 _ _ _ _ rfl (by decide)) <|
  Chain.cons (stepAt_nullary 63 _ _ rfl) <|
  Chain.cons (stepAt_unary 64 _ _ _ rfl (by decide)) <|
  Chain.cons (stepAt_binary 65 _ _ _ _ rfl (by decide) (by decide)) <|
  Chain.cons (stepAt_nullary 66 _ _ rfl) <|
  Chain.cons (stepAt_unary 67 _ _ _ rfl (by decide)) <|
  Chain.cons (stepAt_binary 68 _ _ _ _ rfl (by decide) (by decide)) <|
  Chain.cons (stepAt_ternary 69 _ _ _ _ _ rfl (by decide) (by decide) (by decide)) <|
  Chain.cons (stepAt_unary 70 _ _ _ rfl (by decide)) <|
  Chain.cons (stepAt_binary 71 _ _ _ _ rfl (by decide) (by decide)) <|
  Chain.cons (stepAt_unary 72 _ _ _ rfl (by decide)) <|
  Chain.cons (stepAt_reshape 73 _ _ _ _ rfl (by decide)) <|
  Chain.cons (stepAt_nullary 74 _ _ rfl) <|
  Chain.cons (stepAt_unary 75 _ _ _ rfl (by decide)) <|
  Chain.cons (stepAt_binary 76 _ _ _ _ rfl (by decide) (by decide)) <|
  Chain.cons (stepAt_nullary 77 _ _ rfl) <|
  Chain.cons (stepAt_unary 78 _ _ _ rfl (by decide)) <|
  Chain.cons (stepAt_binary 79 _ _ _ _ rfl (by decide) (by decide)) <|
  Chain.cons (stepAt_nullary 80 _ _ rfl) <|
  Chain.cons (stepAt_unary 81 _ _ _ rfl (by decide)) <|
  Chain.cons (stepAt_binary 82 _ _ _ _ rfl (by decide) (by decide)) <|
  Chain.cons (stepAt_unary 83 _ _ _ rfl (by decide)) <|
  Chain.cons (stepAt_reshape 84 _ _ _ _ rfl (by decide)) <|
  Chain.cons (stepAt_nullary 85 _ _ rfl) <|
  Chain.cons (stepAt_unary 86 _ _ _ rfl (by decide)) <|
  Chain.cons (stepAt_binary 87 _ _ _ _ rfl (by decide) (by decide)) <|
  Chain.cons (stepAt_nullary 88 _ _ rfl) <|
  Chain.cons (stepAt_unary 89 _ _ _ rfl (by decide)) <|
  Chain.cons (stepAt_binary 90 _ _ _ _ rfl (by decide) (by decide)) <|
  Chain.cons (stepAt_nullary 91 _ _ rfl) <|
  Chain.cons (stepAt_unary 92 _ _ _ rfl (by decide)) <|
  Chain.cons (stepAt_binary 93 _ _ _ _ rfl (by decide) (by decide)) <|
  Chain.cons (stepAt_unary 94 _ _ _ rfl (by decide)) <|
  Chain.cons (stepAt_unary 95 _ _ _ rfl (by decide)) <|
  Chain.cons (stepAt_binary 96 _ _ _ _ rfl (by decide) (by decide)) <|
  Chain.cons (stepAt_binary 97 _ _ _ _ rfl (by decide) (by decide)) <|
  Chain.cons (stepAt_unary 98 _ _ _ rfl (by decide)) <|
  Chain.cons (stepAt_nullary 99 _ _ rfl) <|
  Chain.cons (stepAt_nullary 100 _ _ rfl) <|
  Chain.nil
theorem hostOps0_length : (hostOps0 : List (HloOp τ sig (Elt F))).length = 73 := rfl

set_option maxHeartbeats 4000000 in
/-- Operations 73 … 78 of the program, writing buffers 101 … 106. -/
theorem hostOps0_1_chain : Chain 101 (hostOps0_1 : List (HloOp τ sig (Elt F))) :=
  Chain.cons (stepAt_unary 101 _ _ _ rfl (by decide)) <|
  Chain.cons (stepAt_unary 102 _ _ _ rfl (by decide)) <|
  Chain.cons (stepAt_binary 103 _ _ _ _ rfl (by decide) (by decide)) <|
  Chain.cons (stepAt_unary 104 _ _ _ rfl (by decide)) <|
  Chain.cons (stepAt_unary 105 _ _ _ rfl (by decide)) <|
  Chain.cons (stepAt_binary 106 _ _ _ _ rfl (by decide) (by decide)) <|
  Chain.nil
theorem hostOps0_1_length : (hostOps0_1 : List (HloOp τ sig (Elt F))).length = 6 := rfl

set_option maxHeartbeats 4000000 in
/-- Operations 79 … 83 of the program, writing buffers 107 … 111. -/
theorem hostOps0_2_chain : Chain 107 (hostOps0_2 : List (HloOp τ sig (Elt F))) :=
  Chain.cons (stepAt_nullary 107 _ _ rfl) <|
  Chain.cons (stepAt_unary 108 _ _ _ rfl (by decide)) <|
  Chain.cons (stepAt_binary 109 _ _ _ _ rfl (by decide) (by decide)) <|
  Chain.cons (stepAt_nullary 110 _ _ rfl) <|
  Chain.cons (stepAt_nullary 111 _ _ rfl) <|
  Chain.nil
theorem hostOps0_2_length : (hostOps0_2 : List (HloOp τ sig (Elt F))).length = 5 := rfl

set_option maxHeartbeats 4000000 in
/-- Operations 84 … 89 of the program, writing buffers 112 … 117. -/
theorem hostOps0_3_chain : Chain 112 (hostOps0_3 : List (HloOp τ sig (Elt F))) :=
  Chain.cons (stepAt_unary 112 _ _ _ rfl (by decide)) <|
  Chain.cons (stepAt_unary 113 _ _ _ rfl (by decide)) <|
  Chain.cons (stepAt_binary 114 _ _ _ _ rfl (by decide) (by decide)) <|
  Chain.cons (stepAt_unary 115 _ _ _ rfl (by decide)) <|
  Chain.cons (stepAt_unary 116 _ _ _ rfl (by decide)) <|
  Chain.cons (stepAt_binary 117 _ _ _ _ rfl (by decide) (by decide)) <|
  Chain.nil
theorem hostOps0_3_length : (hostOps0_3 : List (HloOp τ sig (Elt F))).length = 6 := rfl

set_option maxHeartbeats 4000000 in
/-- Operations 90 … 92 of the program, writing buffers 118 … 120. -/
theorem hostOps0_4_chain : Chain 118 (hostOps0_4 : List (HloOp τ sig (Elt F))) :=
  Chain.cons (stepAt_unary 118 _ _ _ rfl (by decide)) <|
  Chain.cons (stepAt_nullary 119 _ _ rfl) <|
  Chain.cons (stepAt_nullary 120 _ _ rfl) <|
  Chain.nil
theorem hostOps0_4_length : (hostOps0_4 : List (HloOp τ sig (Elt F))).length = 3 := rfl

set_option maxHeartbeats 4000000 in
/-- Operations 93 … 98 of the program, writing buffers 121 … 126. -/
theorem hostOps0_5_chain : Chain 121 (hostOps0_5 : List (HloOp τ sig (Elt F))) :=
  Chain.cons (stepAt_unary 121 _ _ _ rfl (by decide)) <|
  Chain.cons (stepAt_unary 122 _ _ _ rfl (by decide)) <|
  Chain.cons (stepAt_binary 123 _ _ _ _ rfl (by decide) (by decide)) <|
  Chain.cons (stepAt_unary 124 _ _ _ rfl (by decide)) <|
  Chain.cons (stepAt_unary 125 _ _ _ rfl (by decide)) <|
  Chain.cons (stepAt_binary 126 _ _ _ _ rfl (by decide) (by decide)) <|
  Chain.nil
theorem hostOps0_5_length : (hostOps0_5 : List (HloOp τ sig (Elt F))).length = 6 := rfl

set_option maxHeartbeats 4000000 in
/-- Operations 99 … 103 of the program, writing buffers 127 … 131. -/
theorem hostOps0_6_chain : Chain 127 (hostOps0_6 : List (HloOp τ sig (Elt F))) :=
  Chain.cons (stepAt_nullary 127 _ _ rfl) <|
  Chain.cons (stepAt_unary 128 _ _ _ rfl (by decide)) <|
  Chain.cons (stepAt_binary 129 _ _ _ _ rfl (by decide) (by decide)) <|
  Chain.cons (stepAt_nullary 130 _ _ rfl) <|
  Chain.cons (stepAt_nullary 131 _ _ rfl) <|
  Chain.nil
theorem hostOps0_6_length : (hostOps0_6 : List (HloOp τ sig (Elt F))).length = 5 := rfl

set_option maxHeartbeats 4000000 in
/-- Operations 104 … 109 of the program, writing buffers 132 … 137. -/
theorem hostOps0_7_chain : Chain 132 (hostOps0_7 : List (HloOp τ sig (Elt F))) :=
  Chain.cons (stepAt_unary 132 _ _ _ rfl (by decide)) <|
  Chain.cons (stepAt_unary 133 _ _ _ rfl (by decide)) <|
  Chain.cons (stepAt_binary 134 _ _ _ _ rfl (by decide) (by decide)) <|
  Chain.cons (stepAt_unary 135 _ _ _ rfl (by decide)) <|
  Chain.cons (stepAt_unary 136 _ _ _ rfl (by decide)) <|
  Chain.cons (stepAt_binary 137 _ _ _ _ rfl (by decide) (by decide)) <|
  Chain.nil
theorem hostOps0_7_length : (hostOps0_7 : List (HloOp τ sig (Elt F))).length = 6 := rfl

set_option maxHeartbeats 4000000 in
/-- Operations 110 … 259 of the program, writing buffers 138 … 287. -/
theorem hostOps0_8_chain : Chain 138 (hostOps0_8 : List (HloOp τ sig (Elt F))) :=
  Chain.cons (stepAt_nullary 138 _ _ rfl) <|
  Chain.cons (stepAt_unary 139 _ _ _ rfl (by decide)) <|
  Chain.cons (stepAt_binary 140 _ _ _ _ rfl (by decide) (by decide)) <|
  Chain.cons (stepAt_nullary 141 _ _ rfl) <|
  Chain.cons (stepAt_unary 142 _ _ _ rfl (by decide)) <|
  Chain.cons (stepAt_binary 143 _ _ _ _ rfl (by decide) (by decide)) <|
  Chain.cons (stepAt_ternary 144 _ _ _ _ _ rfl (by decide) (by decide) (by decide)) <|
  Chain.cons (stepAt_nullary 145 _ _ rfl) <|
  Chain.cons (stepAt_unary 146 _ _ _ rfl (by decide)) <|
  Chain.cons (stepAt_binary 147 _ _ _ _ rfl (by decide) (by decide)) <|
  Chain.cons (stepAt_nullary 148 _ _ rfl) <|
  Chain.cons (stepAt_unary 149 _ _ _ rfl (by decide)) <|
  Chain.cons (stepAt_binary 150 _ _ _ _ rfl (by decide) (by decide)) <|
  Chain.cons (stepAt_ternary 151 _ _ _ _ _ rfl (by decide) (by decide) (by decide)) <|
  Chain.cons (stepAt_unary 152 _ _ _ rfl (by decide)) <|
  Chain.cons (stepAt_unary 153 _ _ _ rfl (by decide)) <|
  Chain.cons (stepAt_binary 154 _ _ _ _ rfl (by decide) (by decide)) <|
  Chain.cons (stepAt_binary 155 _ _ _ _ rfl (by decide) (by decide)) <|
  Chain.cons (stepAt_nullary 156 _ _ rfl) <|
  Chain.cons (stepAt_unary 157 _ _ _ rfl (by decide)) <|
  Chain.cons (stepAt_binary 158 _ _ _ _ rfl (by decide) (by decide)) <|
  Chain.cons (stepAt_nullary 159 _ _ rfl) <|
  Chain.cons (stepAt_unary 160 _ _ _ rfl (by decide)) <|
  Chain.cons (stepAt_binary 161 _ _ _ _ rfl (by decide) (by decide)) <|
  Chain.cons (stepAt_ternary 162 _ _ _ _ _ rfl (by decide) (by decide) (by decide)) <|
  Chain.cons (stepAt_nullary 163 _ _ rfl) <|
  Chain.cons (stepAt_unary 164 _ _ _ rfl (by decide)) <|
  Chain.cons (stepAt_binary 165 _ _ _ _ rfl (by decide) (by decide)) <|
  Chain.cons (stepAt_nullary 166 _ _ rfl) <|
  Chain.cons (stepAt_unary 167 _ _ _ rfl (by decide)) <|
  Chain.cons (stepAt_binary 168 _ _ _ _ rfl (by decide) (by decide)) <|
  Chain.cons (stepAt_ternary 169 _ _ _ _ _ rfl (by decide) (by decide) (by decide)) <|
  Chain.cons (stepAt_unary 170 _ _ _ rfl (by decide)) <|
  Chain.cons (stepAt_unary 171 _ _ _ rfl (by decide)) <|
  Chain.cons (stepAt_binary 172 _ _ _ _ rfl (by decide) (by decide)) <|
  Chain.cons (stepAt_binary 173 _ _ _ _ rfl (by decide) (by decide)) <|
  Chain.cons (stepAt_nullary 174 _ _ rfl) <|
  Chain.cons (stepAt_unary 175 _ _ _ rfl (by decide)) <|
  Chain.cons (stepAt_binary 176 _ _ _ _ rfl (by decide) (by decide)) <|
  Chain.cons (stepAt_nullary 177 _ _ rfl) <|
  Chain.cons (stepAt_unary 178 _ _ _ rfl (by decide)) <|
  Chain.cons (stepAt_binary 179 _ _ _ _ rfl (by decide) (by decide)) <|
  Chain.cons (stepAt_ternary 180 _ _ _ _ _ rfl (by decide) (by decide) (by decide)) <|
  Chain.cons (stepAt_nullary 181 _ _ rfl) <|
  Chain.cons (stepAt_unary 182 _ _ _ rfl (by decide)) <|
  Chain.cons (stepAt_binary 183 _ _ _ _ rfl (by decide) (by decide)) <|
  Chain.cons (stepAt_nullary 184 _ _ rfl) <|
  Chain.cons (stepAt_unary 185 _ _ _ rfl (by decide)) <|
  Chain.cons (stepAt_binary 186 _ _ _ _ rfl (by decide) (by decide)) <|
  Chain.cons (stepAt_ternary 187 _ _ _ _ _ rfl (by decide) (by decide) (by decide)) <|
  Chain.cons (stepAt_unary 188 _ _ _ rfl (by decide)) <|
  Chain.cons (stepAt_unary 189 _ _ _ rfl (by decide)) <|
  Chain.cons (stepAt_binary 190 _ _ _ _ rfl (by decide) (by decide)) <|
  Chain.cons (stepAt_binary 191 _ _ _ _ rfl (by decide) (by decide)) <|
  Chain.cons (stepAt_nullary 192 _ _ rfl) <|
  Chain.cons (stepAt_unary 193 _ _ _ rfl (by decide)) <|
  Chain.cons (stepAt_binary 194 _ _ _ _ rfl (by decide) (by decide)) <|
  Chain.cons (stepAt_nullary 195 _ _ rfl) <|
  Chain.cons (stepAt_unary 196 _ _ _ rfl (by decide)) <|
  Chain.cons (stepAt_binary 197 _ _ _ _ rfl (by decide) (by decide)) <|
  Chain.cons (stepAt_ternary 198 _ _ _ _ _ rfl (by decide) (by decide) (by decide)) <|
  Chain.cons (stepAt_nullary 199 _ _ rfl) <|
  Chain.cons (stepAt_unary 200 _ _ _ rfl (by decide)) <|
  Chain.cons (stepAt_binary 201 _ _ _ _ rfl (by decide) (by decide)) <|
  Chain.cons (stepAt_nullary 202 _ _ rfl) <|
  Chain.cons (stepAt_unary 203 _ _ _ rfl (by decide)) <|
  Chain.cons (stepAt_binary 204 _ _ _ _ rfl (by decide) (by decide)) <|
  Chain.cons (stepAt_ternary 205 _ _ _ _ _ rfl (by decide) (by decide) (by decide)) <|
  Chain.cons (stepAt_unary 206 _ _ _ rfl (by decide)) <|
  Chain.cons (stepAt_unary 207 _ _ _ rfl (by decide)) <|
  Chain.cons (stepAt_binary 208 _ _ _ _ rfl (by decide) (by decide)) <|
  Chain.cons (stepAt_binary 209 _ _ _ _ rfl (by decide) (by decide)) <|
  Chain.cons (stepAt_nullary 210 _ _ rfl) <|
  Chain.cons (stepAt_unary 211 _ _ _ rfl (by decide)) <|
  Chain.cons (stepAt_binary 212 _ _ _ _ rfl (by decide) (by decide)) <|
  Chain.cons (stepAt_unary 213 _ _ _ rfl (by decide)) <|
  Chain.cons (stepAt_unary 214 _ _ _ rfl (by decide)) <|
  Chain.cons (stepAt_binary 215 _ _ _ _ rfl (by decide) (by decide)) <|
  Chain.cons (stepAt_nullary 216 _ _ rfl) <|
  Chain.cons (stepAt_unary 217 _ _ _ rfl (by decide)) <|
  Chain.cons (stepAt_binary 218 _ _ _ _ rfl (by decide) (by decide)) <|
  Chain.cons (stepAt_unary 219 _ _ _ rfl (by decide)) <|
  Chain.cons (stepAt_unary 220 _ _ _ rfl (by decide)) <|
  Chain.cons (stepAt_binary 221 _ _ _ _ rfl (by decide) (by decide)) <|
  Chain.cons (stepAt_unary 222 _ _ _ rfl (by decide)) <|
  Chain.cons (stepAt_unary 223 _ _ _ rfl (by decide)) <|
  Chain.cons (stepAt_binary 224 _ _ _ _ rfl (by decide) (by decide)) <|
  Chain.cons (stepAt_nullary 225 _ _ rfl) <|
  Chain.cons (stepAt_unary 226 _ _ _ rfl (by decide)) <|
  Chain.cons (stepAt_binary 227 _ _ _ _ rfl (by decide) (by decide)) <|
  Chain.cons (stepAt_unary 228 _ _ _ rfl (by decide)) <|
  Chain.cons (stepAt_unary 229 _ _ _ rfl (by decide)) <|
  Chain.cons (stepAt_binary 230 _ _ _ _ rfl (by decide) (by decide)) <|
  Chain.cons (stepAt_binary 231 _ _ _ _ rfl (by decide) (by decide)) <|
  Chain.cons (stepAt_nullary 232 _ _ rfl) <|
  Chain.cons (stepAt_unary 233 _ _ _ rfl (by decide)) <|
  Chain.cons (stepAt_binary 234 _ _ _ _ rfl (by decide) (by decide)) <|
  Chain.cons (stepAt_unary 235 _ _ _ rfl (by decide)) <|
  Chain.cons (stepAt_unary 236 _ _ _ rfl (by decide)) <|
  Chain.cons (stepAt_binary 237 _ _ _ _ rfl (by decide) (by decide)) <|
  Chain.cons (stepAt_unary 238 _ _ _ rfl (by decide)) <|
  Chain.cons (stepAt_unary 239 _ _ _ rfl (by decide)) <|
  Chain.cons (stepAt_binary 240 _ _ _ _ rfl (by decide) (by decide)) <|
  Chain.cons (stepAt_binary 241 _ _ _ _ rfl (by decide) (by decide)) <|
  Chain.cons (stepAt_unary 242 _ _ _ rfl (by decide)) <|
  Chain.cons (stepAt_unary 243 _ _ _ rfl (by decide)) <|
  Chain.cons (stepAt_binary 244 _ _ _ _ rfl (by decide) (by decide)) <|
  Chain.cons (stepAt_unary 245 _ _ _ rfl (by decide)) <|
  Chain.cons (stepAt_unary 246 _ _ _ rfl (by decide)) <|
  Chain.cons (stepAt_binary 247 _ _ _ _ rfl (by decide) (by decide)) <|
  Chain.cons (stepAt_binary 248 _ _ _ _ rfl (by decide) (by decide)) <|
  Chain.cons (stepAt_unary 249 _ _ _ rfl (by decide)) <|
  Chain.cons (stepAt_nullary 250 _ _ rfl) <|
  Chain.cons (stepAt_unary 251 _ _ _ rfl (by decide)) <|
  Chain.cons (stepAt_binary 252 _ _ _ _ rfl (by decide) (by decide)) <|
  Chain.cons (stepAt_nullary 253 _ _ rfl) <|
  Chain.cons (stepAt_unary 254 _ _ _ rfl (by decide)) <|
  Chain.cons (stepAt_binary 255 _ _ _ _ rfl (by decide) (by decide)) <|
  Chain.cons (stepAt_ternary 256 _ _ _ _ _ rfl (by decide) (by decide) (by decide)) <|
  Chain.cons (stepAt_unary 257 _ _ _ rfl (by decide)) <|
  Chain.cons (stepAt_binary 258 _ _ _ _ rfl (by decide) (by decide)) <|
  Chain.cons (stepAt_unary 259 _ _ _ rfl (by decide)) <|
  Chain.cons (stepAt_reshape 260 _ _ _ _ rfl (by decide)) <|
  Chain.cons (stepAt_nullary 261 _ _ rfl) <|
  Chain.cons (stepAt_unary 262 _ _ _ rfl (by decide)) <|
  Chain.cons (stepAt_binary 263 _ _ _ _ rfl (by decide) (by decide)) <|
  Chain.cons (stepAt_nullary 264 _ _ rfl) <|
  Chain.cons (stepAt_unary 265 _ _ _ rfl (by decide)) <|
  Chain.cons (stepAt_binary 266 _ _ _ _ rfl (by decide) (by decide)) <|
  Chain.cons (stepAt_nullary 267 _ _ rfl) <|
  Chain.cons (stepAt_unary 268 _ _ _ rfl (by decide)) <|
  Chain.cons (stepAt_binary 269 _ _ _ _ rfl (by decide) (by decide)) <|
  Chain.cons (stepAt_unary 270 _ _ _ rfl (by decide)) <|
  Chain.cons (stepAt_reshape 271 _ _ _ _ rfl (by decide)) <|
  Chain.cons (stepAt_nullary 272 _ _ rfl) <|
  Chain.cons (stepAt_unary 273 _ _ _ rfl (by decide)) <|
  Chain.cons (stepAt_binary 274 _ _ _ _ rfl (by decide) (by decide)) <|
  Chain.cons (stepAt_nullary 275 _ _ rfl) <|
  Chain.cons (stepAt_unary 276 _ _ _ rfl (by decide)) <|
  Chain.cons (stepAt_binary 277 _ _ _ _ rfl (by decide) (by decide)) <|
  Chain.cons (stepAt_nullary 278 _ _ rfl) <|
  Chain.cons (stepAt_unary 279 _ _ _ rfl (by decide)) <|
  Chain.cons (stepAt_binary 280 _ _ _ _ rfl (by decide) (by decide)) <|
  Chain.cons (stepAt_unary 281 _ _ _ rfl (by decide)) <|
  Chain.cons (stepAt_unary 282 _ _ _ rfl (by decide)) <|
  Chain.cons (stepAt_binary 283 _ _ _ _ rfl (by decide) (by decide)) <|
  Chain.cons (stepAt_binary 284 _ _ _ _ rfl (by decide) (by decide)) <|
  Chain.cons (stepAt_unary 285 _ _ _ rfl (by decide)) <|
  Chain.cons (stepAt_nullary 286 _ _ rfl) <|
  Chain.cons (stepAt_nullary 287 _ _ rfl) <|
  Chain.nil
theorem hostOps0_8_length : (hostOps0_8 : List (HloOp τ sig (Elt F))).length = 150 := rfl

set_option maxHeartbeats 4000000 in
/-- Operations 260 … 265 of the program, writing buffers 288 … 293. -/
theorem hostOps0_9_chain : Chain 288 (hostOps0_9 : List (HloOp τ sig (Elt F))) :=
  Chain.cons (stepAt_unary 288 _ _ _ rfl (by decide)) <|
  Chain.cons (stepAt_unary 289 _ _ _ rfl (by decide)) <|
  Chain.cons (stepAt_binary 290 _ _ _ _ rfl (by decide) (by decide)) <|
  Chain.cons (stepAt_unary 291 _ _ _ rfl (by decide)) <|
  Chain.cons (stepAt_unary 292 _ _ _ rfl (by decide)) <|
  Chain.cons (stepAt_binary 293 _ _ _ _ rfl (by decide) (by decide)) <|
  Chain.nil
theorem hostOps0_9_length : (hostOps0_9 : List (HloOp τ sig (Elt F))).length = 6 := rfl

set_option maxHeartbeats 4000000 in
/-- Operations 266 … 270 of the program, writing buffers 294 … 298. -/
theorem hostOps0_10_chain : Chain 294 (hostOps0_10 : List (HloOp τ sig (Elt F))) :=
  Chain.cons (stepAt_nullary 294 _ _ rfl) <|
  Chain.cons (stepAt_unary 295 _ _ _ rfl (by decide)) <|
  Chain.cons (stepAt_binary 296 _ _ _ _ rfl (by decide) (by decide)) <|
  Chain.cons (stepAt_nullary 297 _ _ rfl) <|
  Chain.cons (stepAt_nullary 298 _ _ rfl) <|
  Chain.nil
theorem hostOps0_10_length : (hostOps0_10 : List (HloOp τ sig (Elt F))).length = 5 := rfl

set_option maxHeartbeats 4000000 in
/-- Operations 271 … 276 of the program, writing buffers 299 … 304. -/
theorem hostOps0_11_chain : Chain 299 (hostOps0_11 : List (HloOp τ sig (Elt F))) :=
  Chain.cons (stepAt_unary 299 _ _ _ rfl (by decide)) <|
  Chain.cons (stepAt_unary 300 _ _ _ rfl (by decide)) <|
  Chain.cons (stepAt_binary 301 _ _ _ _ rfl (by decide) (by decide)) <|
  Chain.cons (stepAt_unary 302 _ _ _ rfl (by decide)) <|
  Chain.cons (stepAt_unary 303 _ _ _ rfl (by decide)) <|
  Chain.cons (stepAt_binary 304 _ _ _ _ rfl (by decide) (by decide)) <|
  Chain.nil
theorem hostOps0_11_length : (hostOps0_11 : List (HloOp τ sig (Elt F))).length = 6 := rfl

set_option maxHeartbeats 4000000 in
/-- Operations 277 … 279 of the program, writing buffers 305 … 307. -/
theorem hostOps0_12_chain : Chain 305 (hostOps0_12 : List (HloOp τ sig (Elt F))) :=
  Chain.cons (stepAt_unary 305 _ _ _ rfl (by decide)) <|
  Chain.cons (stepAt_nullary 306 _ _ rfl) <|
  Chain.cons (stepAt_nullary 307 _ _ rfl) <|
  Chain.nil
theorem hostOps0_12_length : (hostOps0_12 : List (HloOp τ sig (Elt F))).length = 3 := rfl

set_option maxHeartbeats 4000000 in
/-- Operations 280 … 285 of the program, writing buffers 308 … 313. -/
theorem hostOps0_13_chain : Chain 308 (hostOps0_13 : List (HloOp τ sig (Elt F))) :=
  Chain.cons (stepAt_unary 308 _ _ _ rfl (by decide)) <|
  Chain.cons (stepAt_unary 309 _ _ _ rfl (by decide)) <|
  Chain.cons (stepAt_binary 310 _ _ _ _ rfl (by decide) (by decide)) <|
  Chain.cons (stepAt_unary 311 _ _ _ rfl (by decide)) <|
  Chain.cons (stepAt_unary 312 _ _ _ rfl (by decide)) <|
  Chain.cons (stepAt_binary 313 _ _ _ _ rfl (by decide) (by decide)) <|
  Chain.nil
theorem hostOps0_13_length : (hostOps0_13 : List (HloOp τ sig (Elt F))).length = 6 := rfl

set_option maxHeartbeats 4000000 in
/-- Operations 286 … 290 of the program, writing buffers 314 … 318. -/
theorem hostOps0_14_chain : Chain 314 (hostOps0_14 : List (HloOp τ sig (Elt F))) :=
  Chain.cons (stepAt_nullary 314 _ _ rfl) <|
  Chain.cons (stepAt_unary 315 _ _ _ rfl (by decide)) <|
  Chain.cons (stepAt_binary 316 _ _ _ _ rfl (by decide) (by decide)) <|
  Chain.cons (stepAt_nullary 317 _ _ rfl) <|
  Chain.cons (stepAt_nullary 318 _ _ rfl) <|
  Chain.nil
theorem hostOps0_14_length : (hostOps0_14 : List (HloOp τ sig (Elt F))).length = 5 := rfl

set_option maxHeartbeats 4000000 in
/-- Operations 291 … 296 of the program, writing buffers 319 … 324. -/
theorem hostOps0_15_chain : Chain 319 (hostOps0_15 : List (HloOp τ sig (Elt F))) :=
  Chain.cons (stepAt_unary 319 _ _ _ rfl (by decide)) <|
  Chain.cons (stepAt_unary 320 _ _ _ rfl (by decide)) <|
  Chain.cons (stepAt_binary 321 _ _ _ _ rfl (by decide) (by decide)) <|
  Chain.cons (stepAt_unary 322 _ _ _ rfl (by decide)) <|
  Chain.cons (stepAt_unary 323 _ _ _ rfl (by decide)) <|
  Chain.cons (stepAt_binary 324 _ _ _ _ rfl (by decide) (by decide)) <|
  Chain.nil
theorem hostOps0_15_length : (hostOps0_15 : List (HloOp τ sig (Elt F))).length = 6 := rfl

set_option maxHeartbeats 4000000 in
/-- Operations 297 … 446 of the program, writing buffers 325 … 474. -/
theorem hostOps0_16_chain : Chain 325 (hostOps0_16 : List (HloOp τ sig (Elt F))) :=
  Chain.cons (stepAt_nullary 325 _ _ rfl) <|
  Chain.cons (stepAt_unary 326 _ _ _ rfl (by decide)) <|
  Chain.cons (stepAt_binary 327 _ _ _ _ rfl (by decide) (by decide)) <|
  Chain.cons (stepAt_nullary 328 _ _ rfl) <|
  Chain.cons (stepAt_unary 329 _ _ _ rfl (by decide)) <|
  Chain.cons (stepAt_binary 330 _ _ _ _ rfl (by decide) (by decide)) <|
  Chain.cons (stepAt_ternary 331 _ _ _ _ _ rfl (by decide) (by decide) (by decide)) <|
  Chain.cons (stepAt_nullary 332 _ _ rfl) <|
  Chain.cons (stepAt_unary 333 _ _ _ rfl (by decide)) <|
  Chain.cons (stepAt_binary 334 _ _ _ _ rfl (by decide) (by decide)) <|
  Chain.cons (stepAt_nullary 335 _ _ rfl) <|
  Chain.cons (stepAt_unary 336 _ _ _ rfl (by decide)) <|
  Chain.cons (stepAt_binary 337 _ _ _ _ rfl (by decide) (by decide)) <|
  Chain.cons (stepAt_ternary 338 _ _ _ _ _ rfl (by decide) (by decide) (by decide)) <|
  Chain.cons (stepAt_unary 339 _ _ _ rfl (by decide)) <|
  Chain.cons (stepAt_unary 340 _ _ _ rfl (by decide)) <|
  Chain.cons (stepAt_binary 341 _ _ _ _ rfl (by decide) (by decide)) <|
  Chain.cons (stepAt_binary 342 _ _ _ _ rfl (by decide) (by decide)) <|
  Chain.cons (stepAt_nullary 343 _ _ rfl) <|
  Chain.cons (stepAt_unary 344 _ _ _ rfl (by decide)) <|
  Chain.cons (stepAt_binary 345 _ _ _ _ rfl (by decide) (by decide)) <|
  Chain.cons (stepAt_nullary 346 _ _ rfl) <|
  Chain.cons (stepAt_unary 347 _ _ _ rfl (by decide)) <|
  Chain.cons (stepAt_binary 348 _ _ _ _ rfl (by decide) (by decide)) <|
  Chain.cons (stepAt_ternary 349 _ _ _ _ _ rfl (by decide) (by decide) (by decide)) <|
  Chain.cons (stepAt_nullary 350 _ _ rfl) <|
  Chain.cons (stepAt_unary 351 _ _ _ rfl (by decide)) <|
  Chain.cons (stepAt_binary 352 _ _ _ _ rfl (by decide) (by decide)) <|
  Chain.cons (stepAt_nullary 353 _ _ rfl) <|
  Chain.cons (stepAt_unary 354 _ _ _ rfl (by decide)) <|
  Chain.cons (stepAt_binary 355 _ _ _ _ rfl (by decide) (by decide)) <|
  Chain.cons (stepAt_ternary 356 _ _ _ _ _ rfl (by decide) (by decide) (by decide)) <|
  Chain.cons (stepAt_unary 357 _ _ _ rfl (by decide)) <|
  Chain.cons (stepAt_unary 358 _ _ _ rfl (by decide)) <|
  Chain.cons (stepAt_binary 359 _ _ _ _ rfl (by decide) (by decide)) <|
  Chain.cons (stepAt_binary 360 _ _ _ _ rfl (by decide) (by decide)) <|
  Chain.cons (stepAt_nullary 361 _ _ rfl) <|
  Chain.cons (stepAt_unary 362 _ _ _ rfl (by decide)) <|
  Chain.cons (stepAt_binary 363 _ _ _ _ rfl (by decide) (by decide)) <|
  Chain.cons (stepAt_nullary 364 _ _ rfl) <|
  Chain.cons (stepAt_unary 365 _ _ _ rfl (by decide)) <|
  Chain.cons (stepAt_binary 366 _ _ _ _ rfl (by decide) (by decide)) <|
  Chain.cons (stepAt_ternary 367 _ _ _ _ _ rfl (by decide) (by decide) (by decide)) <|
  Chain.cons (stepAt_nullary 368 _ _ rfl) <|
  Chain.cons (stepAt_unary 369 _ _ _ rfl (by decide)) <|
  Chain.cons (stepAt_binary 370 _ _ _ _ rfl (by decide) (by decide)) <|
  Chain.cons (stepAt_nullary 371 _ _ rfl) <|
  Chain.cons (stepAt_unary 372 _ _ _ rfl (by decide)) <|
  Chain.cons (stepAt_binary 373 _ _ _ _ rfl (by decide) (by decide)) <|
  Chain.cons (stepAt_ternary 374 _ _ _ _ _ rfl (by decide) (by decide) (by decide)) <|
  Chain.cons (stepAt_unary 375 _ _ _ rfl (by decide)) <|
  Chain.cons (stepAt_unary 376 _ _ _ rfl (by decide)) <|
  Chain.cons (stepAt_binary 377 _ _ _ _ rfl (by decide) (by decide)) <|
  Chain.cons (stepAt_binary 378 _ _ _ _ rfl (by decide) (by decide)) <|
  Chain.cons (stepAt_nullary 379 _ _ rfl) <|
  Chain.cons (stepAt_unary 380 _ _ _ rfl (by decide)) <|
  Chain.cons (stepAt_binary 381 _ _ _ _ rfl (by decide) (by decide)) <|
  Chain.cons (stepAt_nullary 382 _ _ rfl) <|
  Chain.cons (stepAt_unary 383 _ _ _ rfl (by decide)) <|
  Chain.cons (stepAt_binary 384 _ _ _ _ rfl (by decide) (by decide)) <|
  Chain.cons (stepAt_ternary 385 _ _ _ _ _ rfl (by decide) (by decide) (by decide)) <|
  Chain.cons (stepAt_nullary 386 _ _ rfl) <|
  Chain.cons (stepAt_unary 387 _ _ _ rfl (by decide)) <|
  Chain.cons (stepAt_binary 388 _ _ _ _ rfl (by decide) (by decide)) <|
  Chain.cons (stepAt_nullary 389 _ _ rfl) <|
  Chain.cons (stepAt_unary 390 _ _ _ rfl (by decide)) <|
  Chain.cons (stepAt_binary 391 _ _ _ _ rfl (by decide) (by decide)) <|
  Chain.cons (stepAt_ternary 392 _ _ _ _ _ rfl (by decide) (by decide) (by decide)) <|
  Chain.cons (stepAt_unary 393 _ _ _ rfl (by decide)) <|
  Chain.cons (stepAt_unary 394 _ _ _ rfl (by decide)) <|
  Chain.cons (stepAt_binary 395 _ _ _ _ rfl (by decide) (by decide)) <|
  Chain.cons (stepAt_binary 396 _ _ _ _ rfl (by decide) (by decide)) <|
  Chain.cons (stepAt_nullary 397 _ _ rfl) <|
  Chain.cons (stepAt_unary 398 _ _ _ rfl (by decide)) <|
  Chain.cons (stepAt_binary 399 _ _ _ _ rfl (by decide) (by decide)) <|
  Chain.cons (stepAt_unary 400 _ _ _ rfl (by decide)) <|
  Chain.cons (stepAt_unary 401 _ _ _ rfl (by decide)) <|
  Chain.cons (stepAt_binary 402 _ _ _ _ rfl (by decide) (by decide)) <|
  Chain.cons (stepAt_nullary 403 _ _ rfl) <|
  Chain.cons (stepAt_unary 404 _ _ _ rfl (by decide)) <|
  Chain.cons (stepAt_binary 405 _ _ _ _ rfl (by decide) (by decide)) <|
  Chain.cons (stepAt_unary 406 _ _ _ rfl (by decide)) <|
  Chain.cons (stepAt_unary 407 _ _ _ rfl (by decide)) <|
  Chain.cons (stepAt_binary 408 _ _ _ _ rfl (by decide) (by decide)) <|
  Chain.cons (stepAt_unary 409 _ _ _ rfl (by decide)) <|
  Chain.cons (stepAt_unary 410 _ _ _ rfl (by decide)) <|
  Chain.cons (stepAt_binary 411 _ _ _ _ rfl (by decide) (by decide)) <|
  Chain.cons (stepAt_nullary 412 _ _ rfl) <|
  Chain.cons (stepAt_unary 413 _ _ _ rfl (by decide)) <|
  Chain.cons (stepAt_binary 414 _ _ _ _ rfl (by decide) (by decide)) <|
  Chain.cons (stepAt_unary 415 _ _ _ rfl (by decide)) <|
  Chain.cons (stepAt_unary 416 _ _ _ rfl (by decide)) <|
  Chain.cons (stepAt_binary 417 _ _ _ _ rfl (by decide) (by decide)) <|
  Chain.cons (stepAt_binary 418 _ _ _ _ rfl (by decide) (by decide)) <|
  Chain.cons (stepAt_nullary 419 _ _ rfl) <|
  Chain.cons (stepAt_unary 420 _ _ _ rfl (by decide)) <|
  Chain.cons (stepAt_binary 421 _ _ _ _ rfl (by decide) (by decide)) <|
  Chain.cons (stepAt_unary 422 _ _ _ rfl (by decide)) <|
  Chain.cons (stepAt_unary 423 _ _ _ rfl (by decide)) <|
  Chain.cons (stepAt_binary 424 _ _ _ _ rfl (by decide) (by decide)) <|
  Chain.cons (stepAt_unary 425 _ _ _ rfl (by decide)) <|
  Chain.cons (stepAt_unary 426 _ _ _ rfl (by decide)) <|
  Chain.cons (stepAt_binary 427 _ _ _ _ rfl (by decide) (by decide)) <|
  Chain.cons (stepAt_binary 428 _ _ _ _ rfl (by decide) (by decide)) <|
  Chain.cons (stepAt_unary 429 _ _ _ rfl (by decide)) <|
  Chain.cons (stepAt_unary 430 _ _ _ rfl (by decide)) <|
  Chain.cons (stepAt_binary 431 _ _ _ _ rfl (by decide) (by decide)) <|
  Chain.cons (stepAt_unary 432 _ _ _ rfl (by decide)) <|
  Chain.cons (stepAt_unary 433 _ _ _ rfl (by decide)) <|
  Chain.cons (stepAt_binary 434 _ _ _ _ rfl (by decide) (by decide)) <|
  Chain.cons (stepAt_binary 435 _ _ _ _ rfl (by decide) (by decide)) <|
  Chain.cons (stepAt_unary 436 _ _ _ rfl (by decide)) <|
  Chain.cons (stepAt_nullary 437 _ _ rfl) <|
  Chain.cons (stepAt_unary 438 _ _ _ rfl (by decide)) <|
  Chain.cons (stepAt_binary 439 _ _ _ _ rfl (by decide) (by decide)) <|
  Chain.cons (stepAt_nullary 440 _ _ rfl) <|
  Chain.cons (stepAt_unary 441 _ _ _ rfl (by decide)) <|
  Chain.cons (stepAt_binary 442 _ _ _ _ rfl (by decide) (by decide)) <|
  Chain.cons (stepAt_ternary 443 _ _ _ _ _ rfl (by decide) (by decide) (by decide)) <|
  Chain.cons (stepAt_unary 444 _ _ _ rfl (by decide)) <|
  Chain.cons (stepAt_binary 445 _ _ _ _ rfl (by decide) (by decide)) <|
  Chain.cons (stepAt_unary 446 _ _ _ rfl (by decide)) <|
  Chain.cons (stepAt_reshape 447 _ _ _ _ rfl (by decide)) <|
  Chain.cons (stepAt_nullary 448 _ _ rfl) <|
  Chain.cons (stepAt_unary 449 _ _ _ rfl (by decide)) <|
  Chain.cons (stepAt_binary 450 _ _ _ _ rfl (by decide) (by decide)) <|
  Chain.cons (stepAt_nullary 451 _ _ rfl) <|
  Chain.cons (stepAt_unary 452 _ _ _ rfl (by decide)) <|
  Chain.cons (stepAt_binary 453 _ _ _ _ rfl (by decide) (by decide)) <|
  Chain.cons (stepAt_nullary 454 _ _ rfl) <|
  Chain.cons (stepAt_unary 455 _ _ _ rfl (by decide)) <|
  Chain.cons (stepAt_binary 456 _ _ _ _ rfl (by decide) (by decide)) <|
  Chain.cons (stepAt_unary 457 _ _ _ rfl (by decide)) <|
  Chain.cons (stepAt_reshape 458 _ _ _ _ rfl (by decide)) <|
  Chain.cons (stepAt_nullary 459 _ _ rfl) <|
  Chain.cons (stepAt_unary 460 _ _ _ rfl (by decide)) <|
  Chain.cons (stepAt_binary 461 _ _ _ _ rfl (by decide) (by decide)) <|
  Chain.cons (stepAt_nullary 462 _ _ rfl) <|
  Chain.cons (stepAt_unary 463 _ _ _ rfl (by decide)) <|
  Chain.cons (stepAt_binary 464 _ _ _ _ rfl (by decide) (by decide)) <|
  Chain.cons (stepAt_nullary 465 _ _ rfl) <|
  Chain.cons (stepAt_unary 466 _ _ _ rfl (by decide)) <|
  Chain.cons (stepAt_binary 467 _ _ _ _ rfl (by decide) (by decide)) <|
  Chain.cons (stepAt_unary 468 _ _ _ rfl (by decide)) <|
  Chain.cons (stepAt_unary 469 _ _ _ rfl (by decide)) <|
  Chain.cons (stepAt_binary 470 _ _ _ _ rfl (by decide) (by decide)) <|
  Chain.cons (stepAt_binary 471 _ _ _ _ rfl (by decide) (by decide)) <|
  Chain.cons (stepAt_unary 472 _ _ _ rfl (by decide)) <|
  Chain.cons (stepAt_nullary 473 _ _ rfl) <|
  Chain.cons (stepAt_nullary 474 _ _ rfl) <|
  Chain.nil
theorem hostOps0_16_length : (hostOps0_16 : List (HloOp τ sig (Elt F))).length = 150 := rfl

set_option maxHeartbeats 4000000 in
/-- Operations 447 … 452 of the program, writing buffers 475 … 480. -/
theorem hostOps0_17_chain : Chain 475 (hostOps0_17 : List (HloOp τ sig (Elt F))) :=
  Chain.cons (stepAt_unary 475 _ _ _ rfl (by decide)) <|
  Chain.cons (stepAt_unary 476 _ _ _ rfl (by decide)) <|
  Chain.cons (stepAt_binary 477 _ _ _ _ rfl (by decide) (by decide)) <|
  Chain.cons (stepAt_unary 478 _ _ _ rfl (by decide)) <|
  Chain.cons (stepAt_unary 479 _ _ _ rfl (by decide)) <|
  Chain.cons (stepAt_binary 480 _ _ _ _ rfl (by decide) (by decide)) <|
  Chain.nil
theorem hostOps0_17_length : (hostOps0_17 : List (HloOp τ sig (Elt F))).length = 6 := rfl

set_option maxHeartbeats 4000000 in
/-- Operations 453 … 457 of the program, writing buffers 481 … 485. -/
theorem hostOps0_18_chain : Chain 481 (hostOps0_18 : List (HloOp τ sig (Elt F))) :=
  Chain.cons (stepAt_nullary 481 _ _ rfl) <|
  Chain.cons (stepAt_unary 482 _ _ _ rfl (by decide)) <|
  Chain.cons (stepAt_binary 483 _ _ _ _ rfl (by decide) (by decide)) <|
  Chain.cons (stepAt_nullary 484 _ _ rfl) <|
  Chain.cons (stepAt_nullary 485 _ _ rfl) <|
  Chain.nil
theorem hostOps0_18_length : (hostOps0_18 : List (HloOp τ sig (Elt F))).length = 5 := rfl

set_option maxHeartbeats 4000000 in
/-- Operations 458 … 463 of the program, writing buffers 486 … 491. -/
theorem hostOps0_19_chain : Chain 486 (hostOps0_19 : List (HloOp τ sig (Elt F))) :=
  Chain.cons (stepAt_unary 486 _ _ _ rfl (by decide)) <|
  Chain.cons (stepAt_unary 487 _ _ _ rfl (by decide)) <|
  Chain.cons (stepAt_binary 488 _ _ _ _ rfl (by decide) (by decide)) <|
  Chain.cons (stepAt_unary 489 _ _ _ rfl (by decide)) <|
  Chain.cons (stepAt_unary 490 _ _ _ rfl (by decide)) <|
  Chain.cons (stepAt_binary 491 _ _ _ _ rfl (by decide) (by decide)) <|
  Chain.nil
theorem hostOps0_19_length : (hostOps0_19 : List (HloOp τ sig (Elt F))).length = 6 := rfl

set_option maxHeartbeats 4000000 in
/-- Operations 464 … 466 of the program, writing buffers 492 … 494. -/
theorem hostOps0_20_chain : Chain 492 (hostOps0_20 : List (HloOp τ sig (Elt F))) :=
  Chain.cons (stepAt_unary 492 _ _ _ rfl (by decide)) <|
  Chain.cons (stepAt_nullary 493 _ _ rfl) <|
  Chain.cons (stepAt_nullary 494 _ _ rfl) <|
  Chain.nil
theorem hostOps0_20_length : (hostOps0_20 : List (HloOp τ sig (Elt F))).length = 3 := rfl

set_option maxHeartbeats 4000000 in
/-- Operations 467 … 472 of the program, writing buffers 495 … 500. -/
theorem hostOps0_21_chain : Chain 495 (hostOps0_21 : List (HloOp τ sig (Elt F))) :=
  Chain.cons (stepAt_unary 495 _ _ _ rfl (by decide)) <|
  Chain.cons (stepAt_unary 496 _ _ _ rfl (by decide)) <|
  Chain.cons (stepAt_binary 497 _ _ _ _ rfl (by decide) (by decide)) <|
  Chain.cons (stepAt_unary 498 _ _ _ rfl (by decide)) <|
  Chain.cons (stepAt_unary 499 _ _ _ rfl (by decide)) <|
  Chain.cons (stepAt_binary 500 _ _ _ _ rfl (by decide) (by decide)) <|
  Chain.nil
theorem hostOps0_21_length : (hostOps0_21 : List (HloOp τ sig (Elt F))).length = 6 := rfl

set_option maxHeartbeats 4000000 in
/-- Operations 473 … 477 of the program, writing buffers 501 … 505. -/
theorem hostOps0_22_chain : Chain 501 (hostOps0_22 : List (HloOp τ sig (Elt F))) :=
  Chain.cons (stepAt_nullary 501 _ _ rfl) <|
  Chain.cons (stepAt_unary 502 _ _ _ rfl (by decide)) <|
  Chain.cons (stepAt_binary 503 _ _ _ _ rfl (by decide) (by decide)) <|
  Chain.cons (stepAt_nullary 504 _ _ rfl) <|
  Chain.cons (stepAt_nullary 505 _ _ rfl) <|
  Chain.nil
theorem hostOps0_22_length : (hostOps0_22 : List (HloOp τ sig (Elt F))).length = 5 := rfl

set_option maxHeartbeats 4000000 in
/-- Operations 478 … 483 of the program, writing buffers 506 … 511. -/
theorem hostOps0_23_chain : Chain 506 (hostOps0_23 : List (HloOp τ sig (Elt F))) :=
  Chain.cons (stepAt_unary 506 _ _ _ rfl (by decide)) <|
  Chain.cons (stepAt_unary 507 _ _ _ rfl (by decide)) <|
  Chain.cons (stepAt_binary 508 _ _ _ _ rfl (by decide) (by decide)) <|
  Chain.cons (stepAt_unary 509 _ _ _ rfl (by decide)) <|
  Chain.cons (stepAt_unary 510 _ _ _ rfl (by decide)) <|
  Chain.cons (stepAt_binary 511 _ _ _ _ rfl (by decide) (by decide)) <|
  Chain.nil
theorem hostOps0_23_length : (hostOps0_23 : List (HloOp τ sig (Elt F))).length = 6 := rfl

set_option maxHeartbeats 4000000 in
/-- Operations 484 … 633 of the program, writing buffers 512 … 661. -/
theorem hostOps0_24_chain : Chain 512 (hostOps0_24 : List (HloOp τ sig (Elt F))) :=
  Chain.cons (stepAt_nullary 512 _ _ rfl) <|
  Chain.cons (stepAt_unary 513 _ _ _ rfl (by decide)) <|
  Chain.cons (stepAt_binary 514 _ _ _ _ rfl (by decide) (by decide)) <|
  Chain.cons (stepAt_nullary 515 _ _ rfl) <|
  Chain.cons (stepAt_unary 516 _ _ _ rfl (by decide)) <|
  Chain.cons (stepAt_binary 517 _ _ _ _ rfl (by decide) (by decide)) <|
  Chain.cons (stepAt_ternary 518 _ _ _ _ _ rfl (by decide) (by decide) (by decide)) <|
  Chain.cons (stepAt_nullary 519 _ _ rfl) <|
  Chain.cons (stepAt_unary 520 _ _ _ rfl (by decide)) <|
  Chain.cons (stepAt_binary 521 _ _ _ _ rfl (by decide) (by decide)) <|
  Chain.cons (stepAt_nullary 522 _ _ rfl) <|
  Chain.cons (stepAt_unary 523 _ _ _ rfl (by decide)) <|
  Chain.cons (stepAt_binary 524 _ _ _ _ rfl (by decide) (by decide)) <|
  Chain.cons (stepAt_ternary 525 _ _ _ _ _ rfl (by decide) (by decide) (by decide)) <|
  Chain.cons (stepAt_unary 526 _ _ _ rfl (by decide)) <|
  Chain.cons (stepAt_unary 527 _ _ _ rfl (by decide)) <|
  Chain.cons (stepAt_binary 528 _ _ _ _ rfl (by decide) (by decide)) <|
  Chain.cons (stepAt_binary 529 _ _ _ _ rfl (by decide) (by decide)) <|
  Chain.cons (stepAt_nullary 530 _ _ rfl) <|
  Chain.cons (stepAt_unary 531 _ _ _ rfl (by decide)) <|
  Chain.cons (stepAt_binary 532 _ _ _ _ rfl (by decide) (by decide)) <|
  Chain.cons (stepAt_nullary 533 _ _ rfl) <|
  Chain.cons (stepAt_unary 534 _ _ _ rfl (by decide)) <|
  Chain.cons (stepAt_binary 535 _ _ _ _ rfl (by decide) (by decide)) <|
  Chain.cons (stepAt_ternary 536 _ _ _ _ _ rfl (by decide) (by decide) (by decide)) <|
  Chain.cons (stepAt_nullary 537 _ _ rfl) <|
  Chain.cons (stepAt_unary 538 _ _ _ rfl (by decide)) <|
  Chain.cons (stepAt_binary 539 _ _ _ _ rfl (by decide) (by decide)) <|
  Chain.cons (stepAt_nullary 540 _ _ rfl) <|
  Chain.cons (stepAt_unary 541 _ _ _ rfl (by decide)) <|
  Chain.cons (stepAt_binary 542 _ _ _ _ rfl (by decide) (by decide)) <|
  Chain.cons (stepAt_ternary 543 _ _ _ _ _ rfl (by decide) (by decide) (by decide)) <|
  Chain.cons (stepAt_unary 544 _ _ _ rfl (by decide)) <|
  Chain.cons (stepAt_unary 545 _ _ _ rfl (by decide)) <|
  Chain.cons (stepAt_binary 546 _ _ _ _ rfl (by decide) (by decide)) <|
  Chain.cons (stepAt_binary 547 _ _ _ _ rfl (by decide) (by decide)) <|
  Chain.cons (stepAt_nullary 548 _ _ rfl) <|
  Chain.cons (stepAt_unary 549 _ _ _ rfl (by decide)) <|
  Chain.cons (stepAt_binary 550 _ _ _ _ rfl (by decide) (by decide)) <|
  Chain.cons (stepAt_nullary 551 _ _ rfl) <|
  Chain.cons (stepAt_unary 552 _ _ _ rfl (by decide)) <|
  Chain.cons (stepAt_binary 553 _ _ _ _ rfl (by decide) (by decide)) <|
  Chain.cons (stepAt_ternary 554 _ _ _ _ _ rfl (by decide) (by decide) (by decide)) <|
  Chain.cons (stepAt_nullary 555 _ _ rfl) <|
  Chain.cons (stepAt_unary 556 _ _ _ rfl (by decide)) <|
  Chain.cons (stepAt_binary 557 _ _ _ _ rfl (by decide) (by decide)) <|
  Chain.cons (stepAt_nullary 558 _ _ rfl) <|
  Chain.cons (stepAt_unary 559 _ _ _ rfl (by decide)) <|
  Chain.cons (stepAt_binary 560 _ _ _ _ rfl (by decide) (by decide)) <|
  Chain.cons (stepAt_ternary 561 _ _ _ _ _ rfl (by decide) (by decide) (by decide)) <|
  Chain.cons (stepAt_unary 562 _ _ _ rfl (by decide)) <|
  Chain.cons (stepAt_unary 563 _ _ _ rfl (by decide)) <|
  Chain.cons (stepAt_binary 564 _ _ _ _ rfl (by decide) (by decide)) <|
  Chain.cons (stepAt_binary 565 _ _ _ _ rfl (by decide) (by decide)) <|
  Chain.cons (stepAt_nullary 566 _ _ rfl) <|
  Chain.cons (stepAt_unary 567 _ _ _ rfl (by decide)) <|
  Chain.cons (stepAt_binary 568 _ _ _ _ rfl (by decide) (by decide)) <|
  Chain.cons (stepAt_nullary 569 _ _ rfl) <|
  Chain.cons (stepAt_unary 570 _ _ _ rfl (by decide)) <|
  Chain.cons (stepAt_binary 571 _ _ _ _ rfl (by decide) (by decide)) <|
  Chain.cons (stepAt_ternary 572 _ _ _ _ _ rfl (by decide) (by decide) (by decide)) <|
  Chain.cons (stepAt_nullary 573 _ _ rfl) <|
  Chain.cons (stepAt_unary 574 _ _ _ rfl (by decide)) <|
  Chain.cons (stepAt_binary 575 _ _ _ _ rfl (by decide) (by decide)) <|
  Chain.cons (stepAt_nullary 576 _ _ rfl) <|
  Chain.cons (stepAt_unary 577 _ _ _ rfl (by decide)) <|
  Chain.cons (stepAt_binary 578 _ _ _ _ rfl (by decide) (by decide)) <|
  Chain.cons (stepAt_ternary 579 _ _ _ _ _ rfl (by decide) (by decide) (by decide)) <|
  Chain.cons (stepAt_unary 580 _ _ _ rfl (by decide)) <|
  Chain.cons (stepAt_unary 581 _ _ _ rfl (by decide)) <|
  Chain.cons (stepAt_binary 582 _ _ _ _ rfl (by decide) (by decide)) <|
  Chain.cons (stepAt_binary 583 _ _ _ _ rfl (by decide) (by decide)) <|
  Chain.cons (stepAt_nullary 584 _ _ rfl) <|
  Chain.cons (stepAt_unary 585 _ _ _ rfl (by decide)) <|
  Chain.cons (stepAt_binary 586 _ _ _ _ rfl (by decide) (by decide)) <|
  Chain.cons (stepAt_unary 587 _ _ _ rfl (by decide)) <|
  Chain.cons (stepAt_unary 588 _ _ _ rfl (by decide)) <|
  Chain.cons (stepAt_binary 589 _ _ _ _ rfl (by decide) (by decide)) <|
  Chain.cons (stepAt_nullary 590 _ _ rfl) <|
  Chain.cons (stepAt_unary 591 _ _ _ rfl (by decide)) <|
  Chain.cons (stepAt_binary 592 _ _ _ _ rfl (by decide) (by decide)) <|
  Chain.cons (stepAt_unary 593 _ _ _ rfl (by decide)) <|
  Chain.cons (stepAt_unary 594 _ _ _ rfl (by decide)) <|
  Chain.cons (stepAt_binary 595 _ _ _ _ rfl (by decide) (by decide)) <|
  Chain.cons (stepAt_unary 596 _ _ _ rfl (by decide)) <|
  Chain.cons (stepAt_unary 597 _ _ _ rfl (by decide)) <|
  Chain.cons (stepAt_binary 598 _ _ _ _ rfl (by decide) (by decide)) <|
  Chain.cons (stepAt_nullary 599 _ _ rfl) <|
  Chain.cons (stepAt_unary 600 _ _ _ rfl (by decide)) <|
  Chain.cons (stepAt_binary 601 _ _ _ _ rfl (by decide) (by decide)) <|
  Chain.cons (stepAt_unary 602 _ _ _ rfl (by decide)) <|
  Chain.cons (stepAt_unary 603 _ _ _ rfl (by decide)) <|
  Chain.cons (stepAt_binary 604 _ _ _ _ rfl (by decide) (by decide)) <|
  Chain.cons (stepAt_binary 605 _ _ _ _ rfl (by decide) (by decide)) <|
  Chain.cons (stepAt_nullary 606 _ _ rfl) <|
  Chain.cons (stepAt_unary 607 _ _ _ rfl (by decide)) <|
  Chain.cons (stepAt_binary 608 _ _ _ _ rfl (by decide) (by decide)) <|
  Chain.cons (stepAt_unary 609 _ _ _ rfl (by decide)) <|
  Chain.cons (stepAt_unary 610 _ _ _ rfl (by decide)) <|
  Chain.cons (stepAt_binary 611 _ _ _ _ rfl (by decide) (by decide)) <|
  Chain.cons (stepAt_unary 612 _ _ _ rfl (by decide)) <|
  Chain.cons (stepAt_unary 613 _ _ _ rfl (by decide)) <|
  Chain.cons (stepAt_binary 614 _ _ _ _ rfl (by decide) (by decide)) <|
  Chain.cons (stepAt_binary 615 _ _ _ _ rfl (by decide) (by decide)) <|
  Chain.cons (stepAt_unary 616 _ _ _ rfl (by decide)) <|
  Chain.cons (stepAt_unary 617 _ _ _ rfl (by decide)) <|
  Chain.cons (stepAt_binary 618 _ _ _ _ rfl (by decide) (by decide)) <|
  Chain.cons (stepAt_unary 619 _ _ _ rfl (by decide)) <|
  Chain.cons (stepAt_unary 620 _ _ _ rfl (by decide)) <|
  Chain.cons (stepAt_binary 621 _ _ _ _ rfl (by decide) (by decide)) <|
  Chain.cons (stepAt_binary 622 _ _ _ _ rfl (by decide) (by decide)) <|
  Chain.cons (stepAt_unary 623 _ _ _ rfl (by decide)) <|
  Chain.cons (stepAt_nullary 624 _ _ rfl) <|
  Chain.cons (stepAt_unary 625 _ _ _ rfl (by decide)) <|
  Chain.cons (stepAt_binary 626 _ _ _ _ rfl (by decide) (by decide)) <|
  Chain.cons (stepAt_nullary 627 _ _ rfl) <|
  Chain.cons (stepAt_unary 628 _ _ _ rfl (by decide)) <|
  Chain.cons (stepAt_binary 629 _ _ _ _ rfl (by decide) (by decide)) <|
  Chain.cons (stepAt_ternary 630 _ _ _ _ _ rfl (by decide) (by decide) (by decide)) <|
  Chain.cons (stepAt_unary 631 _ _ _ rfl (by decide)) <|
  Chain.cons (stepAt_binary 632 _ _ _ _ rfl (by decide) (by decide)) <|
  Chain.cons (stepAt_unary 633 _ _ _ rfl (by decide)) <|
  Chain.cons (stepAt_reshape 634 _ _ _ _ rfl (by decide)) <|
  Chain.cons (stepAt_nullary 635 _ _ rfl) <|
  Chain.cons (stepAt_unary 636 _ _ _ rfl (by decide)) <|
  Chain.cons (stepAt_binary 637 _ _ _ _ rfl (by decide) (by decide)) <|
  Chain.cons (stepAt_nullary 638 _ _ rfl) <|
  Chain.cons (stepAt_unary 639 _ _ _ rfl (by decide)) <|
  Chain.cons (stepAt_binary 640 _ _ _ _ rfl (by decide) (by decide)) <|
  Chain.cons (stepAt_nullary 641 _ _ rfl) <|
  Chain.cons (stepAt_unary 642 _ _ _ rfl (by decide)) <|
  Chain.cons (stepAt_binary 643 _ _ _ _ rfl (by decide) (by decide)) <|
  Chain.cons (stepAt_unary 644 _ _ _ rfl (by decide)) <|
  Chain.cons (stepAt_reshape 645 _ _ _ _ rfl (by decide)) <|
  Chain.cons (stepAt_nullary 646 _ _ rfl) <|
  Chain.cons (stepAt_unary 647 _ _ _ rfl (by decide)) <|
  Chain.cons (stepAt_binary 648 _ _ _ _ rfl (by decide) (by decide)) <|
  Chain.cons (stepAt_nullary 649 _ _ rfl) <|
  Chain.cons (stepAt_unary 650 _ _ _ rfl (by decide)) <|
  Chain.cons (stepAt_binary 651 _ _ _ _ rfl (by decide) (by decide)) <|
  Chain.cons (stepAt_nullary 652 _ _ rfl) <|
  Chain.cons (stepAt_unary 653 _ _ _ rfl (by decide)) <|
  Chain.cons (stepAt_binary 654 _ _ _ _ rfl (by decide) (by decide)) <|
  Chain.cons (stepAt_unary 655 _ _ _ rfl (by decide)) <|
  Chain.cons (stepAt_unary 656 _ _ _ rfl (by decide)) <|
  Chain.cons (stepAt_binary 657 _ _ _ _ rfl (by decide) (by decide)) <|
  Chain.cons (stepAt_binary 658 _ _ _ _ rfl (by decide) (by decide)) <|
  Chain.cons (stepAt_unary 659 _ _ _ rfl (by decide)) <|
  Chain.cons (stepAt_nullary 660 _ _ rfl) <|
  Chain.cons (stepAt_nullary 661 _ _ rfl) <|
  Chain.nil
theorem hostOps0_24_length : (hostOps0_24 : List (HloOp τ sig (Elt F))).length = 150 := rfl

set_option maxHeartbeats 4000000 in
/-- Operations 634 … 639 of the program, writing buffers 662 … 667. -/
theorem hostOps0_25_chain : Chain 662 (hostOps0_25 : List (HloOp τ sig (Elt F))) :=
  Chain.cons (stepAt_unary 662 _ _ _ rfl (by decide)) <|
  Chain.cons (stepAt_unary 663 _ _ _ rfl (by decide)) <|
  Chain.cons (stepAt_binary 664 _ _ _ _ rfl (by decide) (by decide)) <|
  Chain.cons (stepAt_unary 665 _ _ _ rfl (by decide)) <|
  Chain.cons (stepAt_unary 666 _ _ _ rfl (by decide)) <|
  Chain.cons (stepAt_binary 667 _ _ _ _ rfl (by decide) (by decide)) <|
  Chain.nil
theorem hostOps0_25_length : (hostOps0_25 : List (HloOp τ sig (Elt F))).length = 6 := rfl

set_option maxHeartbeats 4000000 in
/-- Operations 640 … 644 of the program, writing buffers 668 … 672. -/
theorem hostOps0_26_chain : Chain 668 (hostOps0_26 : List (HloOp τ sig (Elt F))) :=
  Chain.cons (stepAt_nullary 668 _ _ rfl) <|
  Chain.cons (stepAt_unary 669 _ _ _ rfl (by decide)) <|
  Chain.cons (stepAt_binary 670 _ _ _ _ rfl (by decide) (by decide)) <|
  Chain.cons (stepAt_nullary 671 _ _ rfl) <|
  Chain.cons (stepAt_nullary 672 _ _ rfl) <|
  Chain.nil
theorem hostOps0_26_length : (hostOps0_26 : List (HloOp τ sig (Elt F))).length = 5 := rfl

set_option maxHeartbeats 4000000 in
/-- Operations 645 … 650 of the program, writing buffers 673 … 678. -/
theorem hostOps0_27_chain : Chain 673 (hostOps0_27 : List (HloOp τ sig (Elt F))) :=
  Chain.cons (stepAt_unary 673 _ _ _ rfl (by decide)) <|
  Chain.cons (stepAt_unary 674 _ _ _ rfl (by decide)) <|
  Chain.cons (stepAt_binary 675 _ _ _ _ rfl (by decide) (by decide)) <|
  Chain.cons (stepAt_unary 676 _ _ _ rfl (by decide)) <|
  Chain.cons (stepAt_unary 677 _ _ _ rfl (by decide)) <|
  Chain.cons (stepAt_binary 678 _ _ _ _ rfl (by decide) (by decide)) <|
  Chain.nil
theorem hostOps0_27_length : (hostOps0_27 : List (HloOp τ sig (Elt F))).length = 6 := rfl

set_option maxHeartbeats 4000000 in
/-- Operations 651 … 653 of the program, writing buffers 679 … 681. -/
theorem hostOps0_28_chain : Chain 679 (hostOps0_28 : List (HloOp τ sig (Elt F))) :=
  Chain.cons (stepAt_unary 679 _ _ _ rfl (by decide)) <|
  Chain.cons (stepAt_nullary 680 _ _ rfl) <|
  Chain.cons (stepAt_nullary 681 _ _ rfl) <|
  Chain.nil
theorem hostOps0_28_length : (hostOps0_28 : List (HloOp τ sig (Elt F))).length = 3 := rfl

set_option maxHeartbeats 4000000 in
/-- Operations 654 … 659 of the program, writing buffers 682 … 687. -/
theorem hostOps0_29_chain : Chain 682 (hostOps0_29 : List (HloOp τ sig (Elt F))) :=
  Chain.cons (stepAt_unary 682 _ _ _ rfl (by decide)) <|
  Chain.cons (stepAt_unary 683 _ _ _ rfl (by decide)) <|
  Chain.cons (stepAt_binary 684 _ _ _ _ rfl (by decide) (by decide)) <|
  Chain.cons (stepAt_unary 685 _ _ _ rfl (by decide)) <|
  Chain.cons (stepAt_unary 686 _ _ _ rfl (by decide)) <|
  Chain.cons (stepAt_binary 687 _ _ _ _ rfl (by decide) (by decide)) <|
  Chain.nil
theorem hostOps0_29_length : (hostOps0_29 : List (HloOp τ sig (Elt F))).length = 6 := rfl

set_option maxHeartbeats 4000000 in
/-- Operations 660 … 664 of the program, writing buffers 688 … 692. -/
theorem hostOps0_30_chain : Chain 688 (hostOps0_30 : List (HloOp τ sig (Elt F))) :=
  Chain.cons (stepAt_nullary 688 _ _ rfl) <|
  Chain.cons (stepAt_unary 689 _ _ _ rfl (by decide)) <|
  Chain.cons (stepAt_binary 690 _ _ _ _ rfl (by decide) (by decide)) <|
  Chain.cons (stepAt_nullary 691 _ _ rfl) <|
  Chain.cons (stepAt_nullary 692 _ _ rfl) <|
  Chain.nil
theorem hostOps0_30_length : (hostOps0_30 : List (HloOp τ sig (Elt F))).length = 5 := rfl

set_option maxHeartbeats 4000000 in
/-- Operations 665 … 670 of the program, writing buffers 693 … 698. -/
theorem hostOps0_31_chain : Chain 693 (hostOps0_31 : List (HloOp τ sig (Elt F))) :=
  Chain.cons (stepAt_unary 693 _ _ _ rfl (by decide)) <|
  Chain.cons (stepAt_unary 694 _ _ _ rfl (by decide)) <|
  Chain.cons (stepAt_binary 695 _ _ _ _ rfl (by decide) (by decide)) <|
  Chain.cons (stepAt_unary 696 _ _ _ rfl (by decide)) <|
  Chain.cons (stepAt_unary 697 _ _ _ rfl (by decide)) <|
  Chain.cons (stepAt_binary 698 _ _ _ _ rfl (by decide) (by decide)) <|
  Chain.nil
theorem hostOps0_31_length : (hostOps0_31 : List (HloOp τ sig (Elt F))).length = 6 := rfl

set_option maxHeartbeats 4000000 in
/-- Operations 671 … 820 of the program, writing buffers 699 … 848. -/
theorem hostOps0_32_chain : Chain 699 (hostOps0_32 : List (HloOp τ sig (Elt F))) :=
  Chain.cons (stepAt_nullary 699 _ _ rfl) <|
  Chain.cons (stepAt_unary 700 _ _ _ rfl (by decide)) <|
  Chain.cons (stepAt_binary 701 _ _ _ _ rfl (by decide) (by decide)) <|
  Chain.cons (stepAt_nullary 702 _ _ rfl) <|
  Chain.cons (stepAt_unary 703 _ _ _ rfl (by decide)) <|
  Chain.cons (stepAt_binary 704 _ _ _ _ rfl (by decide) (by decide)) <|
  Chain.cons (stepAt_ternary 705 _ _ _ _ _ rfl (by decide) (by decide) (by decide)) <|
  Chain.cons (stepAt_nullary 706 _ _ rfl) <|
  Chain.cons (stepAt_unary 707 _ _ _ rfl (by decide)) <|
  Chain.cons (stepAt_binary 708 _ _ _ _ rfl (by decide) (by decide)) <|
  Chain.cons (stepAt_nullary 709 _ _ rfl) <|
  Chain.cons (stepAt_unary 710 _ _ _ rfl (by decide)) <|
  Chain.cons (stepAt_binary 711 _ _ _ _ rfl (by decide) (by decide)) <|
  Chain.cons (stepAt_ternary 712 _ _ _ _ _ rfl (by decide) (by decide) (by decide)) <|
  Chain.cons (stepAt_unary 713 _ _ _ rfl (by decide)) <|
  Chain.cons (stepAt_unary 714 _ _ _ rfl (by decide)) <|
  Chain.cons (stepAt_binary 715 _ _ _ _ rfl (by decide) (by decide)) <|
  Chain.cons (stepAt_binary 716 _ _ _ _ rfl (by decide) (by decide)) <|
  Chain.cons (stepAt_nullary 717 _ _ rfl) <|
  Chain.cons (stepAt_unary 718 _ _ _ rfl (by decide)) <|
  Chain.cons (stepAt_binary 719 _ _ _ _ rfl (by decide) (by decide)) <|
  Chain.cons (stepAt_nullary 720 _ _ rfl) <|
  Chain.cons (stepAt_unary 721 _ _ _ rfl (by decide)) <|
  Chain.cons (stepAt_binary 722 _ _ _ _ rfl (by decide) (by decide)) <|
  Chain.cons (stepAt_ternary 723 _ _ _ _ _ rfl (by decide) (by decide) (by decide)) <|
  Chain.cons (stepAt_nullary 724 _ _ rfl) <|
  Chain.cons (stepAt_unary 725 _ _ _ rfl (by decide)) <|
  Chain.cons (stepAt_binary 726 _ _ _ _ rfl (by decide) (by decide)) <|
  Chain.cons (stepAt_nullary 727 _ _ rfl) <|
  Chain.cons (stepAt_unary 728 _ _ _ rfl (by decide)) <|
  Chain.cons (stepAt_binary 729 _ _ _ _ rfl (by decide) (by decide)) <|
  Chain.cons (stepAt_ternary 730 _ _ _ _ _ rfl (by decide) (by decide) (by decide)) <|
  Chain.cons (stepAt_unary 731 _ _ _ rfl (by decide)) <|
  Chain.cons (stepAt_unary 732 _ _ _ rfl (by decide)) <|
  Chain.cons (stepAt_binary 733 _ _ _ _ rfl (by decide) (by decide)) <|
  Chain.cons (stepAt_binary 734 _ _ _ _ rfl (by decide) (by decide)) <|
  Chain.cons (stepAt_nullary 735 _ _ rfl) <|
  Chain.cons (stepAt_unary 736 _ _ _ rfl (by decide)) <|
  Chain.cons (stepAt_binary 737 _ _ _ _ rfl (by decide) (by decide)) <|
  Chain.cons (stepAt_nullary 738 _ _ rfl) <|
  Chain.cons (stepAt_unary 739 _ _ _ rfl (by decide)) <|
  Chain.cons (stepAt_binary 740 _ _ _ _ rfl (by decide) (by decide)) <|
  Chain.cons (stepAt_ternary 741 _ _ _ _ _ rfl (by decide) (by decide) (by decide)) <|
  Chain.cons (stepAt_nullary 742 _ _ rfl) <|
  Chain.cons (stepAt_unary 743 _ _ _ rfl (by decide)) <|
  Chain.cons (stepAt_binary 744 _ _ _ _ rfl (by decide) (by decide)) <|
  Chain.cons (stepAt_nullary 745 _ _ rfl) <|
  Chain.cons (stepAt_unary 746 _ _ _ rfl (by decide)) <|
  Chain.cons (stepAt_binary 747 _ _ _ _ rfl (by decide) (by decide)) <|
  Chain.cons (stepAt_ternary 748 _ _ _ _ _ rfl (by decide) (by decide) (by decide)) <|
  Chain.cons (stepAt_unary 749 _ _ _ rfl (by decide)) <|
  Chain.cons (stepAt_unary 750 _ _ _ rfl (by decide)) <|
  Chain.cons (stepAt_binary 751 _ _ _ _ rfl (by decide) (by decide)) <|
  Chain.cons (stepAt_binary 752 _ _ _ _ rfl (by decide) (by decide)) <|
  Chain.cons (stepAt_nullary 753 _ _ rfl) <|
  Chain.cons (stepAt_unary 754 _ _ _ rfl (by decide)) <|
  Chain.cons (stepAt_binary 755 _ _ _ _ rfl (by decide) (by decide)) <|
  Chain.cons (stepAt_nullary 756 _ _ rfl) <|
  Chain.cons (stepAt_unary 757 _ _ _ rfl (by decide)) <|
  Chain.cons (stepAt_binary 758 _ _ _ _ rfl (by decide) (by decide)) <|
  Chain.cons (stepAt_ternary 759 _ _ _ _ _ rfl (by decide) (by decide) (by decide)) <|
  Chain.cons (stepAt_nullary 760 _ _ rfl) <|
  Chain.cons (stepAt_unary 761 _ _ _ rfl (by decide)) <|
  Chain.cons (stepAt_binary 762 _ _ _ _ rfl (by decide) (by decide)) <|
  Chain.cons (stepAt_nullary 763 _ _ rfl) <|
  Chain.cons (stepAt_unary 764 _ _ _ rfl (by decide)) <|
  Chain.cons (stepAt_binary 765 _ _ _ _ rfl (by decide) (by decide)) <|
  Chain.cons (stepAt_ternary 766 _ _ _ _ _ rfl (by decide) (by decide) (by decide)) <|
  Chain.cons (stepAt_unary 767 _ _ _ rfl (by decide)) <|
  Chain.cons (stepAt_unary 768 _ _ _ rfl (by decide)) <|
  Chain.cons (stepAt_binary 769 _ _ _ _ rfl (by decide) (by decide)) <|
  Chain.cons (stepAt_binary 770 _ _ _ _ rfl (by decide) (by decide)) <|
  Chain.cons (stepAt_nullary 771 _ _ rfl) <|
  Chain.cons (stepAt_unary 772 _ _ _ rfl (by decide)) <|
  Chain.cons (stepAt_binary 773 _ _ _ _ rfl (by decide) (by decide)) <|
  Chain.cons (stepAt_unary 774 _ _ _ rfl (by decide)) <|
  Chain.cons (stepAt_unary 775 _ _ _ rfl (by decide)) <|
  Chain.cons (stepAt_binary 776 _ _ _ _ rfl (by decide) (by decide)) <|
  Chain.cons (stepAt_nullary 777 _ _ rfl) <|
  Chain.cons (stepAt_unary 778 _ _ _ rfl (by decide)) <|
  Chain.cons (stepAt_binary 779 _ _ _ _ rfl (by decide) (by decide)) <|
  Chain.cons (stepAt_unary 780 _ _ _ rfl (by decide)) <|
  Chain.cons (stepAt_unary 781 _ _ _ rfl (by decide)) <|
  Chain.cons (stepAt_binary 782 _ _ _ _ rfl (by decide) (by decide)) <|
  Chain.cons (stepAt_unary 783 _ _ _ rfl (by decide)) <|
  Chain.cons (stepAt_unary 784 _ _ _ rfl (by decide)) <|
  Chain.cons (stepAt_binary 785 _ _ _ _ rfl (by decide) (by decide)) <|
  Chain.cons (stepAt_nullary 786 _ _ rfl) <|
  Chain.cons (stepAt_unary 787 _ _ _ rfl (by decide)) <|
  Chain.cons (stepAt_binary 788 _ _ _ _ rfl (by decide) (by decide)) <|
  Chain.cons (stepAt_unary 789 _ _ _ rfl (by decide)) <|
  Chain.cons (stepAt_unary 790 _ _ _ rfl (by decide)) <|
  Chain.cons (stepAt_binary 791 _ _ _ _ rfl (by decide) (by decide)) <|
  Chain.cons (stepAt_binary 792 _ _ _ _ rfl (by decide) (by decide)) <|
  Chain.cons (stepAt_nullary 793 _ _ rfl) <|
  Chain.cons (stepAt_unary 794 _ _ _ rfl (by decide)) <|
  Chain.cons (stepAt_binary 795 _ _ _ _ rfl (by decide) (by decide)) <|
  Chain.cons (stepAt_unary 796 _ _ _ rfl (by decide)) <|
  Chain.cons (stepAt_unary 797 _ _ _ rfl (by decide)) <|
  Chain.cons (stepAt_binary 798 _ _ _ _ rfl (by decide) (by decide)) <|
  Chain.cons (stepAt_unary 799 _ _ _ rfl (by decide)) <|
  Chain.cons (stepAt_unary 800 _ _ _ rfl (by decide)) <|
  Chain.cons (stepAt_binary 801 _ _ _ _ rfl (by decide) (by decide)) <|
  Chain.cons (stepAt_binary 802 _ _ _ _ rfl (by decide) (by decide)) <|
  Chain.cons (stepAt_unary 803 _ _ _ rfl (by decide)) <|
  Chain.cons (stepAt_unary 804 _ _ _ rfl (by decide)) <|
  Chain.cons (stepAt_binary 805 _ _ _ _ rfl (by decide) (by decide)) <|
  Chain.cons (stepAt_unary 806 _ _ _ rfl (by decide)) <|
  Chain.cons (stepAt_unary 807 _ _ _ rfl (by decide)) <|
  Chain.cons (stepAt_binary 808 _ _ _ _ rfl (by decide) (by decide)) <|
  Chain.cons (stepAt_binary 809 _ _ _ _ rfl (by decide) (by decide)) <|
  Chain.cons (stepAt_unary 810 _ _ _ rfl (by decide)) <|
  Chain.cons (stepAt_nullary 811 _ _ rfl) <|
  Chain.cons (stepAt_unary 812 _ _ _ rfl (by decide)) <|
  Chain.cons (stepAt_binary 813 _ _ _ _ rfl (by decide) (by decide)) <|
  Chain.cons (stepAt_nullary 814 _ _ rfl) <|
  Chain.cons (stepAt_unary 815 _ _ _ rfl (by decide)) <|
  Chain.cons (stepAt_binary 816 _ _ _ _ rfl (by decide) (by decide)) <|
  Chain.cons (stepAt_ternary 817 _ _ _ _ _ rfl (by decide) (by decide) (by decide)) <|
  Chain.cons (stepAt_unary 818 _ _ _ rfl (by decide)) <|
  Chain.cons (stepAt_binary 819 _ _ _ _ rfl (by decide) (by decide)) <|
  Chain.cons (stepAt_unary 820 _ _ _ rfl (by decide)) <|
  Chain.cons (stepAt_reshape 821 _ _ _ _ rfl (by decide)) <|
  Chain.cons (stepAt_nullary 822 _ _ rfl) <|
  Chain.cons (stepAt_unary 823 _ _ _ rfl (by decide)) <|
  Chain.cons (stepAt_binary 824 _ _ _ _ rfl (by decide) (by decide)) <|
  Chain.cons (stepAt_nullary 825 _ _ rfl) <|
  Chain.cons (stepAt_unary 826 _ _ _ rfl (by decide)) <|
  Chain.cons (stepAt_binary 827 _ _ _ _ rfl (by decide) (by decide)) <|
  Chain.cons (stepAt_nullary 828 _ _ rfl) <|
  Chain.cons (stepAt_unary 829 _ _ _ rfl (by decide)) <|
  Chain.cons (stepAt_binary 830 _ _ _ _ rfl (by decide) (by decide)) <|
  Chain.cons (stepAt_unary 831 _ _ _ rfl (by decide)) <|
  Chain.cons (stepAt_reshape 832 _ _ _ _ rfl (by decide)) <|
  Chain.cons (stepAt_nullary 833 _ _ rfl) <|
  Chain.cons (stepAt_unary 834 _ _ _ rfl (by decide)) <|
  Chain.cons (stepAt_binary 835 _ _ _ _ rfl (by decide) (by decide)) <|
  Chain.cons (stepAt_nullary 836 _ _ rfl) <|
  Chain.cons (stepAt_unary 837 _ _ _ rfl (by decide)) <|
  Chain.cons (stepAt_binary 838 _ _ _ _ rfl (by decide) (by decide)) <|
  Chain.cons (stepAt_nullary 839 _ _ rfl) <|
  Chain.cons (stepAt_unary 840 _ _ _ rfl (by decide)) <|
  Chain.cons (stepAt_binary 841 _ _ _ _ rfl (by decide) (by decide)) <|
  Chain.cons (stepAt_unary 842 _ _ _ rfl (by decide)) <|
  Chain.cons (stepAt_unary 843 _ _ _ rfl (by decide)) <|
  Chain.cons (stepAt_binary 844 _ _ _ _ rfl (by decide) (by decide)) <|
  Chain.cons (stepAt_binary 845 _ _ _ _ rfl (by decide) (by decide)) <|
  Chain.cons (stepAt_unary 846 _ _ _ rfl (by decide)) <|
  Chain.cons (stepAt_nullary 847 _ _ rfl) <|
  Chain.cons (stepAt_nullary 848 _ _ rfl) <|
  Chain.nil
theorem hostOps0_32_length : (hostOps0_32 : List (HloOp τ sig (Elt F))).length = 150 := rfl

set_option maxHeartbeats 4000000 in
/-- Operations 821 … 826 of the program, writing buffers 849 … 854. -/
theorem hostOps0_33_chain : Chain 849 (hostOps0_33 : List (HloOp τ sig (Elt F))) :=
  Chain.cons (stepAt_unary 849 _ _ _ rfl (by decide)) <|
  Chain.cons (stepAt_unary 850 _ _ _ rfl (by decide)) <|
  Chain.cons (stepAt_binary 851 _ _ _ _ rfl (by decide) (by decide)) <|
  Chain.cons (stepAt_unary 852 _ _ _ rfl (by decide)) <|
  Chain.cons (stepAt_unary 853 _ _ _ rfl (by decide)) <|
  Chain.cons (stepAt_binary 854 _ _ _ _ rfl (by decide) (by decide)) <|
  Chain.nil
theorem hostOps0_33_length : (hostOps0_33 : List (HloOp τ sig (Elt F))).length = 6 := rfl

set_option maxHeartbeats 4000000 in
/-- Operations 827 … 831 of the program, writing buffers 855 … 859. -/
theorem hostOps0_34_chain : Chain 855 (hostOps0_34 : List (HloOp τ sig (Elt F))) :=
  Chain.cons (stepAt_nullary 855 _ _ rfl) <|
  Chain.cons (stepAt_unary 856 _ _ _ rfl (by decide)) <|
  Chain.cons (stepAt_binary 857 _ _ _ _ rfl (by decide) (by decide)) <|
  Chain.cons (stepAt_nullary 858 _ _ rfl) <|
  Chain.cons (stepAt_nullary 859 _ _ rfl) <|
  Chain.nil
theorem hostOps0_34_length : (hostOps0_34 : List (HloOp τ sig (Elt F))).length = 5 := rfl

set_option maxHeartbeats 4000000 in
/-- Operations 832 … 837 of the program, writing buffers 860 … 865. -/
theorem hostOps0_35_chain : Chain 860 (hostOps0_35 : List (HloOp τ sig (Elt F))) :=
  Chain.cons (stepAt_unary 860 _ _ _ rfl (by decide)) <|
  Chain.cons (stepAt_unary 861 _ _ _ rfl (by decide)) <|
  Chain.cons (stepAt_binary 862 _ _ _ _ rfl (by decide) (by decide)) <|
  Chain.cons (stepAt_unary 863 _ _ _ rfl (by decide)) <|
  Chain.cons (stepAt_unary 864 _ _ _ rfl (by decide)) <|
  Chain.cons (stepAt_binary 865 _ _ _ _ rfl (by decide) (by decide)) <|
  Chain.nil
theorem hostOps0_35_length : (hostOps0_35 : List (HloOp τ sig (Elt F))).length = 6 := rfl

set_option maxHeartbeats 4000000 in
/-- Operations 838 … 840 of the program, writing buffers 866 … 868. -/
theorem hostOps0_36_chain : Chain 866 (hostOps0_36 : List (HloOp τ sig (Elt F))) :=
  Chain.cons (stepAt_unary 866 _ _ _ rfl (by decide)) <|
  Chain.cons (stepAt_nullary 867 _ _ rfl) <|
  Chain.cons (stepAt_nullary 868 _ _ rfl) <|
  Chain.nil
theorem hostOps0_36_length : (hostOps0_36 : List (HloOp τ sig (Elt F))).length = 3 := rfl

set_option maxHeartbeats 4000000 in
/-- Operations 841 … 846 of the program, writing buffers 869 … 874. -/
theorem hostOps0_37_chain : Chain 869 (hostOps0_37 : List (HloOp τ sig (Elt F))) :=
  Chain.cons (stepAt_unary 869 _ _ _ rfl (by decide)) <|
  Chain.cons (stepAt_unary 870 _ _ _ rfl (by decide)) <|
  Chain.cons (stepAt_binary 871 _ _ _ _ rfl (by decide) (by decide)) <|
  Chain.cons (stepAt_unary 872 _ _ _ rfl (by decide)) <|
  Chain.cons (stepAt_unary 873 _ _ _ rfl (by decide)) <|
  Chain.cons (stepAt_binary 874 _ _ _ _ rfl (by decide) (by decide)) <|
  Chain.nil
theorem hostOps0_37_length : (hostOps0_37 : List (HloOp τ sig (Elt F))).length = 6 := rfl

set_option maxHeartbeats 4000000 in
/-- Operations 847 … 851 of the program, writing buffers 875 … 879. -/
theorem hostOps0_38_chain : Chain 875 (hostOps0_38 : List (HloOp τ sig (Elt F))) :=
  Chain.cons (stepAt_nullary 875 _ _ rfl) <|
  Chain.cons (stepAt_unary 876 _ _ _ rfl (by decide)) <|
  Chain.cons (stepAt_binary 877 _ _ _ _ rfl (by decide) (by decide)) <|
  Chain.cons (stepAt_nullary 878 _ _ rfl) <|
  Chain.cons (stepAt_nullary 879 _ _ rfl) <|
  Chain.nil
theorem hostOps0_38_length : (hostOps0_38 : List (HloOp τ sig (Elt F))).length = 5 := rfl

set_option maxHeartbeats 4000000 in
/-- Operations 852 … 857 of the program, writing buffers 880 … 885. -/
theorem hostOps0_39_chain : Chain 880 (hostOps0_39 : List (HloOp τ sig (Elt F))) :=
  Chain.cons (stepAt_unary 880 _ _ _ rfl (by decide)) <|
  Chain.cons (stepAt_unary 881 _ _ _ rfl (by decide)) <|
  Chain.cons (stepAt_binary 882 _ _ _ _ rfl (by decide) (by decide)) <|
  Chain.cons (stepAt_unary 883 _ _ _ rfl (by decide)) <|
  Chain.cons (stepAt_unary 884 _ _ _ rfl (by decide)) <|
  Chain.cons (stepAt_binary 885 _ _ _ _ rfl (by decide) (by decide)) <|
  Chain.nil
theorem hostOps0_39_length : (hostOps0_39 : List (HloOp τ sig (Elt F))).length = 6 := rfl

end Cert.KernelIdeal.Stretch

end
-- ==== Proof.KIStretch1.lean ====
/- The stretches of @main's host operations before the kernel's region are single-assignment lines: the operations of a
   stretch write the consecutive buffers numbered from the stated bound, each reading only buffers of smaller numbers. -/
import proofs.«133805_j10187662426200_2_alg».proof.Proof.Gen.KernelIdeal.Launch
import proofs.«133805_j10187662426200_2_alg».proof.Proof.HostChain

set_option maxRecDepth 65536

noncomputable section

namespace Cert.KernelIdeal.Stretch

open Cert.KernelIdeal Cert.KernelIdeal.Gen Idealize.ShloMosaic Idealize.ShloMosaic.TcCoe Idealize.SL.Sem Idealize.ShloMosaic.StableHlo Cert.HostFold

variable {F : FTy → Type} [FloatOps F]

set_option maxHeartbeats 4000000 in
/-- Operations 858 … 1007 of the program, writing buffers 886 … 1035. -/
theorem hostOps0_40_chain : Chain 886 (hostOps0_40 : List (HloOp τ sig (Elt F))) :=
  Chain.cons (stepAt_nullary 886 _ _ rfl) <|
  Chain.cons (stepAt_unary 887 _ _ _ rfl (by decide)) <|
  Chain.cons (stepAt_binary 888 _ _ _ _ rfl (by decide) (by decide)) <|
  Chain.cons (stepAt_nullary 889 _ _ rfl) <|
  Chain.cons (stepAt_unary 890 _ _ _ rfl (by decide)) <|
  Chain.cons (stepAt_binary 891 _ _ _ _ rfl (by decide) (by decide)) <|
  Chain.cons (stepAt_ternary 892 _ _ _ _ _ rfl (by decide) (by decide) (by decide)) <|
  Chain.cons (stepAt_nullary 893 _ _ rfl) <|
  Chain.cons (stepAt_unary 894 _ _ _ rfl (by decide)) <|
  Chain.cons (stepAt_binary 895 _ _ _ _ rfl (by decide) (by decide)) <|
  Chain.cons (stepAt_nullary 896 _ _ rfl) <|
  Chain.cons (stepAt_unary 897 _ _ _ rfl (by decide)) <|
  Chain.cons (stepAt_binary 898 _ _ _ _ rfl (by decide) (by decide)) <|
  Chain.cons (stepAt_ternary 899 _ _ _ _ _ rfl (by decide) (by decide) (by decide)) <|
  Chain.cons (stepAt_unary 900 _ _ _ rfl (by decide)) <|
  Chain.cons (stepAt_unary 901 _ _ _ rfl (by decide)) <|
  Chain.cons (stepAt_binary 902 _ _ _ _ rfl (by decide) (by decide)) <|
  Chain.cons (stepAt_binary 903 _ _ _ _ rfl (by decide) (by decide)) <|
  Chain.cons (stepAt_nullary 904 _ _ rfl) <|
  Chain.cons (stepAt_unary 905 _ _ _ rfl (by decide)) <|
  Chain.cons (stepAt_binary 906 _ _ _ _ rfl (by decide) (by decide)) <|
  Chain.cons (stepAt_nullary 907 _ _ rfl) <|
  Chain.cons (stepAt_unary 908 _ _ _ rfl (by decide)) <|
  Chain.cons (stepAt_binary 909 _ _ _ _ rfl (by decide) (by decide)) <|
  Chain.cons (stepAt_ternary 910 _ _ _ _ _ rfl (by decide) (by decide) (by decide)) <|
  Chain.cons (stepAt_nullary 911 _ _ rfl) <|
  Chain.cons (stepAt_unary 912 _ _ _ rfl (by decide)) <|
  Chain.cons (stepAt_binary 913 _ _ _ _ rfl (by decide) (by decide)) <|
  Chain.cons (stepAt_nullary 914 _ _ rfl) <|
  Chain.cons (stepAt_unary 915 _ _ _ rfl (by decide)) <|
  Chain.cons (stepAt_binary 916 _ _ _ _ rfl (by decide) (by decide)) <|
  Chain.cons (stepAt_ternary 917 _ _ _ _ _ rfl (by decide) (by decide) (by decide)) <|
  Chain.cons (stepAt_unary 918 _ _ _ rfl (by decide)) <|
  Chain.cons (stepAt_unary 919 _ _ _ rfl (by decide)) <|
  Chain.cons (stepAt_binary 920 _ _ _ _ rfl (by decide) (by decide)) <|
  Chain.cons (stepAt_binary 921 _ _ _ _ rfl (by decide) (by decide)) <|
  Chain.cons (stepAt_nullary 922 _ _ rfl) <|
  Chain.cons (stepAt_unary 923 _ _ _ rfl (by decide)) <|
  Chain.cons (stepAt_binary 924 _ _ _ _ rfl (by decide) (by decide)) <|
  Chain.cons (stepAt_nullary 925 _ _ rfl) <|
  Chain.cons (stepAt_unary 926 _ _ _ rfl (by decide)) <|
  Chain.cons (stepAt_binary 927 _ _ _ _ rfl (by decide) (by decide)) <|
  Chain.cons (stepAt_ternary 928 _ _ _ _ _ rfl (by decide) (by decide) (by decide)) <|
  Chain.cons (stepAt_nullary 929 _ _ rfl) <|
  Chain.cons (stepAt_unary 930 _ _ _ rfl (by decide)) <|
  Chain.cons (stepAt_binary 931 _ _ _ _ rfl (by decide) (by decide)) <|
  Chain.cons (stepAt_nullary 932 _ _ rfl) <|
  Chain.cons (stepAt_unary 933 _ _ _ rfl (by decide)) <|
  Chain.cons (stepAt_binary 934 _ _ _ _ rfl (by decide) (by decide)) <|
  Chain.cons (stepAt_ternary 935 _ _ _ _ _ rfl (by decide) (by decide) (by decide)) <|
  Chain.cons (stepAt_unary 936 _ _ _ rfl (by decide)) <|
  Chain.cons (stepAt_unary 937 _ _ _ rfl (by decide)) <|
  Chain.cons (stepAt_binary 938 _ _ _ _ rfl (by decide) (by decide)) <|
  Chain.cons (stepAt_binary 939 _ _ _ _ rfl (by decide) (by decide)) <|
  Chain.cons (stepAt_nullary 940 _ _ rfl) <|
  Chain.cons (stepAt_unary 941 _ _ _ rfl (by decide)) <|
  Chain.cons (stepAt_binary 942 _ _ _ _ rfl (by decide) (by decide)) <|
  Chain.cons (stepAt_nullary 943 _ _ rfl) <|
  Chain.cons (stepAt_unary 944 _ _ _ rfl (by decide)) <|
  Chain.cons (stepAt_binary 945 _ _ _ _ rfl (by decide) (by decide)) <|
  Chain.cons (stepAt_ternary 946 _ _ _ _ _ rfl (by decide) (by decide) (by decide)) <|
  Chain.cons (stepAt_nullary 947 _ _ rfl) <|
  Chain.cons (stepAt_unary 948 _ _ _ rfl (by decide)) <|
  Chain.cons (stepAt_binary 949 _ _ _ _ rfl (by decide) (by decide)) <|
  Chain.cons (stepAt_nullary 950 _ _ rfl) <|
  Chain.cons (stepAt_unary 951 _ _ _ rfl (by decide)) <|
  Chain.cons (stepAt_binary 952 _ _ _ _ rfl (by decide) (by decide)) <|
  Chain.cons (stepAt_ternary 953 _ _ _ _ _ rfl (by decide) (by decide) (by decide)) <|
  Chain.cons (stepAt_unary 954 _ _ _ rfl (by decide)) <|
  Chain.cons (stepAt_unary 955 _ _ _ rfl (by decide)) <|
  Chain.cons (stepAt_binary 956 _ _ _ _ rfl (by decide) (by decide)) <|
  Chain.cons (stepAt_binary 957 _ _ _ _ rfl (by decide) (by decide)) <|
  Chain.cons (stepAt_nullary 958 _ _ rfl) <|
  Chain.cons (stepAt_unary 959 _ _ _ rfl (by decide)) <|
  Chain.cons (stepAt_binary 960 _ _ _ _ rfl (by decide) (by decide)) <|
  Chain.cons (stepAt_unary 961 _ _ _ rfl (by decide)) <|
  Chain.cons (stepAt_unary 962 _ _ _ rfl (by decide)) <|
  Chain.cons (stepAt_binary 963 _ _ _ _ rfl (by decide) (by decide)) <|
  Chain.cons (stepAt_nullary 964 _ _ rfl) <|
  Chain.cons (stepAt_unary 965 _ _ _ rfl (by decide)) <|
  Chain.cons (stepAt_binary 966 _ _ _ _ rfl (by decide) (by decide)) <|
  Chain.cons (stepAt_unary 967 _ _ _ rfl (by decide)) <|
  Chain.cons (stepAt_unary 968 _ _ _ rfl (by decide)) <|
  Chain.cons (stepAt_binary 969 _ _ _ _ rfl (by decide) (by decide)) <|
  Chain.cons (stepAt_unary 970 _ _ _ rfl (by decide)) <|
  Chain.cons (stepAt_unary 971 _ _ _ rfl (by decide)) <|
  Chain.cons (stepAt_binary 972 _ _ _ _ rfl (by decide) (by decide)) <|
  Chain.cons (stepAt_nullary 973 _ _ rfl) <|
  Chain.cons (stepAt_unary 974 _ _ _ rfl (by decide)) <|
  Chain.cons (stepAt_binary 975 _ _ _ _ rfl (by decide) (by decide)) <|
  Chain.cons (stepAt_unary 976 _ _ _ rfl (by decide)) <|
  Chain.cons (stepAt_unary 977 _ _ _ rfl (by decide)) <|
  Chain.cons (stepAt_binary 978 _ _ _ _ rfl (by decide) (by decide)) <|
  Chain.cons (stepAt_binary 979 _ _ _ _ rfl (by decide) (by decide)) <|
  Chain.cons (stepAt_nullary 980 _ _ rfl) <|
  Chain.cons (stepAt_unary 981 _ _ _ rfl (by decide)) <|
  Chain.cons (stepAt_binary 982 _ _ _ _ rfl (by decide) (by decide)) <|
  Chain.cons (stepAt_unary 983 _ _ _ rfl (by decide)) <|
  Chain.cons (stepAt_unary 984 _ _ _ rfl (by decide)) <|
  Chain.cons (stepAt_binary 985 _ _ _ _ rfl (by decide) (by decide)) <|
  Chain.cons (stepAt_unary 986 _ _ _ rfl (by decide)) <|
  Chain.cons (stepAt_unary 987 _ _ _ rfl (by decide)) <|
  Chain.cons (stepAt_binary 988 _ _ _ _ rfl (by decide) (by decide)) <|
  Chain.cons (stepAt_binary 989 _ _ _ _ rfl (by decide) (by decide)) <|
  Chain.cons (stepAt_unary 990 _ _ _ rfl (by decide)) <|
  Chain.cons (stepAt_unary 991 _ _ _ rfl (by decide)) <|
  Chain.cons (stepAt_binary 992 _ _ _ _ rfl (by decide) (by decide)) <|
  Chain.cons (stepAt_unary 993 _ _ _ rfl (by decide)) <|
  Chain.cons (stepAt_unary 994 _ _ _ rfl (by decide)) <|
  Chain.cons (stepAt_binary 995 _ _ _ _ rfl (by decide) (by decide)) <|
  Chain.cons (stepAt_binary 996 _ _ _ _ rfl (by decide) (by decide)) <|
  Chain.cons (stepAt_unary 997 _ _ _ rfl (by decide)) <|
  Chain.cons (stepAt_nullary 998 _ _ rfl) <|
  Chain.cons (stepAt_unary 999 _ _ _ rfl (by decide)) <|
  Chain.cons (stepAt_binary 1000 _ _ _ _ rfl (by decide) (by decide)) <|
  Chain.cons (stepAt_nullary 1001 _ _ rfl) <|
  Chain.cons (stepAt_unary 1002 _ _ _ rfl (by decide)) <|
  Chain.cons (stepAt_binary 1003 _ _ _ _ rfl (by decide) (by decide)) <|
  Chain.cons (stepAt_ternary 1004 _ _ _ _ _ rfl (by decide) (by decide) (by decide)) <|
  Chain.cons (stepAt_unary 1005 _ _ _ rfl (by decide)) <|
  Chain.cons (stepAt_binary 1006 _ _ _ _ rfl (by decide) (by decide)) <|
  Chain.cons (stepAt_unary 1007 _ _ _ rfl (by decide)) <|
  Chain.cons (stepAt_reshape 1008 _ _ _ _ rfl (by decide)) <|
  Chain.cons (stepAt_nullary 1009 _ _ rfl) <|
  Chain.cons (stepAt_unary 1010 _ _ _ rfl (by decide)) <|
  Chain.cons (stepAt_binary 1011 _ _ _ _ rfl (by decide) (by decide)) <|
  Chain.cons (stepAt_nullary 1012 _ _ rfl) <|
  Chain.cons (stepAt_unary 1013 _ _ _ rfl (by decide)) <|
  Chain.cons (stepAt_binary 1014 _ _ _ _ rfl (by decide) (by decide)) <|
  Chain.cons (stepAt_nullary 1015 _ _ rfl) <|
  Chain.cons (stepAt_unary 1016 _ _ _ rfl (by decide)) <|
  Chain.cons (stepAt_binary 1017 _ _ _ _ rfl (by decide) (by decide)) <|
  Chain.cons (stepAt_unary 1018 _ _ _ rfl (by decide)) <|
  Chain.cons (stepAt_reshape 1019 _ _ _ _ rfl (by decide)) <|
  Chain.cons (stepAt_nullary 1020 _ _ rfl) <|
  Chain.cons (stepAt_unary 1021 _ _ _ rfl (by decide)) <|
  Chain.cons (stepAt_binary 1022 _ _ _ _ rfl (by decide) (by decide)) <|
  Chain.cons (stepAt_nullary 1023 _ _ rfl) <|
  Chain.cons (stepAt_unary 1024 _ _ _ rfl (by decide)) <|
  Chain.cons (stepAt_binary 1025 _ _ _ _ rfl (by decide) (by decide)) <|
  Chain.cons (stepAt_nullary 1026 _ _ rfl) <|
  Chain.cons (stepAt_unary 1027 _ _ _ rfl (by decide)) <|
  Chain.cons (stepAt_binary 1028 _ _ _ _ rfl (by decide) (by decide)) <|
  Chain.cons (stepAt_unary 1029 _ _ _ rfl (by decide)) <|
  Chain.cons (stepAt_unary 1030 _ _ _ rfl (by decide)) <|
  Chain.cons (stepAt_binary 1031 _ _ _ _ rfl (by decide) (by decide)) <|
  Chain.cons (stepAt_binary 1032 _ _ _ _ rfl (by decide) (by decide)) <|
  Chain.cons (stepAt_unary 1033 _ _ _ rfl (by decide)) <|
  Chain.cons (stepAt_nullary 1034 _ _ rfl) <|
  Chain.cons (stepAt_nullary 1035 _ _ rfl) <|
  Chain.nil
theorem hostOps0_40_length : (hostOps0_40 : List (HloOp τ sig (Elt F))).length = 150 := rfl

set_option maxHeartbeats 4000000 in
/-- Operations 1008 … 1013 of the program, writing buffers 1036 … 1041. -/
theorem hostOps0_41_chain : Chain 1036 (hostOps0_41 : List (HloOp τ sig (Elt F))) :=
  Chain.cons (stepAt_unary 1036 _ _ _ rfl (by decide)) <|
  Chain.cons (stepAt_unary 1037 _ _ _ rfl (by decide)) <|
  Chain.cons (stepAt_binary 1038 _ _ _ _ rfl (by decide) (by decide)) <|
  Chain.cons (stepAt_unary 1039 _ _ _ rfl (by decide)) <|
  Chain.cons (stepAt_unary 1040 _ _ _ rfl (by decide)) <|
  Chain.cons (stepAt_binary 1041 _ _ _ _ rfl (by decide) (by decide)) <|
  Chain.nil
theorem hostOps0_41_length : (hostOps0_41 : List (HloOp τ sig (Elt F))).length = 6 := rfl

set_option maxHeartbeats 4000000 in
/-- Operations 1014 … 1018 of the program, writing buffers 1042 … 1046. -/
theorem hostOps0_42_chain : Chain 1042 (hostOps0_42 : List (HloOp τ sig (Elt F))) :=
  Chain.cons (stepAt_nullary 1042 _ _ rfl) <|
  Chain.cons (stepAt_unary 1043 _ _ _ rfl (by decide)) <|
  Chain.cons (stepAt_binary 1044 _ _ _ _ rfl (by decide) (by decide)) <|
  Chain.cons (stepAt_nullary 1045 _ _ rfl) <|
  Chain.cons (stepAt_nullary 1046 _ _ rfl) <|
  Chain.nil
theorem hostOps0_42_length : (hostOps0_42 : List (HloOp τ sig (Elt F))).length = 5 := rfl

set_option maxHeartbeats 4000000 in
/-- Operations 1019 … 1024 of the program, writing buffers 1047 … 1052. -/
theorem hostOps0_43_chain : Chain 1047 (hostOps0_43 : List (HloOp τ sig (Elt F))) :=
  Chain.cons (stepAt_unary 1047 _ _ _ rfl (by decide)) <|
  Chain.cons (stepAt_unary 1048 _ _ _ rfl (by decide)) <|
  Chain.cons (stepAt_binary 1049 _ _ _ _ rfl (by decide) (by decide)) <|
  Chain.cons (stepAt_unary 1050 _ _ _ rfl (by decide)) <|
  Chain.cons (stepAt_unary 1051 _ _ _ rfl (by decide)) <|
  Chain.cons (stepAt_binary 1052 _ _ _ _ rfl (by decide) (by decide)) <|
  Chain.nil
theorem hostOps0_43_length : (hostOps0_43 : List (HloOp τ sig (Elt F))).length = 6 := rfl

set_option maxHeartbeats 4000000 in
/-- Operations 1025 … 1027 of the program, writing buffers 1053 … 1055. -/
theorem hostOps0_44_chain : Chain 1053 (hostOps0_44 : List (HloOp τ sig (Elt F))) :=
  Chain.cons (stepAt_unary 1053 _ _ _ rfl (by decide)) <|
  Chain.cons (stepAt_nullary 1054 _ _ rfl) <|
  Chain.cons (stepAt_nullary 1055 _ _ rfl) <|
  Chain.nil
theorem hostOps0_44_length : (hostOps0_44 : List (HloOp τ sig (Elt F))).length = 3 := rfl

set_option maxHeartbeats 4000000 in
/-- Operations 1028 … 1033 of the program, writing buffers 1056 … 1061. -/
theorem hostOps0_45_chain : Chain 1056 (hostOps0_45 : List (HloOp τ sig (Elt F))) :=
  Chain.cons (stepAt_unary 1056 _ _ _ rfl (by decide)) <|
  Chain.cons (stepAt_unary 1057 _ _ _ rfl (by decide)) <|
  Chain.cons (stepAt_binary 1058 _ _ _ _ rfl (by decide) (by decide)) <|
  Chain.cons (stepAt_unary 1059 _ _ _ rfl (by decide)) <|
  Chain.cons (stepAt_unary 1060 _ _ _ rfl (by decide)) <|
  Chain.cons (stepAt_binary 1061 _ _ _ _ rfl (by decide) (by decide)) <|
  Chain.nil
theorem hostOps0_45_length : (hostOps0_45 : List (HloOp τ sig (Elt F))).length = 6 := rfl

set_option maxHeartbeats 4000000 in
/-- Operations 1034 … 1038 of the program, writing buffers 1062 … 1066. -/
theorem hostOps0_46_chain : Chain 1062 (hostOps0_46 : List (HloOp τ sig (Elt F))) :=
  Chain.cons (stepAt_nullary 1062 _ _ rfl) <|
  Chain.cons (stepAt_unary 1063 _ _ _ rfl (by decide)) <|
  Chain.cons (stepAt_binary 1064 _ _ _ _ rfl (by decide) (by decide)) <|
  Chain.cons (stepAt_nullary 1065 _ _ rfl) <|
  Chain.cons (stepAt_nullary 1066 _ _ rfl) <|
  Chain.nil
theorem hostOps0_46_length : (hostOps0_46 : List (HloOp τ sig (Elt F))).length = 5 := rfl

set_option maxHeartbeats 4000000 in
/-- Operations 1039 … 1044 of the program, writing buffers 1067 … 1072. -/
theorem hostOps0_47_chain : Chain 1067 (hostOps0_47 : List (HloOp τ sig (Elt F))) :=
  Chain.cons (stepAt_unary 1067 _ _ _ rfl (by decide)) <|
  Chain.cons (stepAt_unary 1068 _ _ _ rfl (by decide)) <|
  Chain.cons (stepAt_binary 1069 _ _ _ _ rfl (by decide) (by decide)) <|
  Chain.cons (stepAt_unary 1070 _ _ _ rfl (by decide)) <|
  Chain.cons (stepAt_unary 1071 _ _ _ rfl (by decide)) <|
  Chain.cons (stepAt_binary 1072 _ _ _ _ rfl (by decide) (by decide)) <|
  Chain.nil
theorem hostOps0_47_length : (hostOps0_47 : List (HloOp τ sig (Elt F))).length = 6 := rfl

set_option maxHeartbeats 4000000 in
/-- Operations 1045 … 1194 of the program, writing buffers 1073 … 1222. -/
theorem hostOps0_48_chain : Chain 1073 (hostOps0_48 : List (HloOp τ sig (Elt F))) :=
  Chain.cons (stepAt_nullary 1073 _ _ rfl) <|
  Chain.cons (stepAt_unary 1074 _ _ _ rfl (by decide)) <|
  Chain.cons (stepAt_binary 1075 _ _ _ _ rfl (by decide) (by decide)) <|
  Chain.cons (stepAt_nullary 1076 _ _ rfl) <|
  Chain.cons (stepAt_unary 1077 _ _ _ rfl (by decide)) <|
  Chain.cons (stepAt_binary 1078 _ _ _ _ rfl (by decide) (by decide)) <|
  Chain.cons (stepAt_ternary 1079 _ _ _ _ _ rfl (by decide) (by decide) (by decide)) <|
  Chain.cons (stepAt_nullary 1080 _ _ rfl) <|
  Chain.cons (stepAt_unary 1081 _ _ _ rfl (by decide)) <|
  Chain.cons (stepAt_binary 1082 _ _ _ _ rfl (by decide) (by decide)) <|
  Chain.cons (stepAt_nullary 1083 _ _ rfl) <|
  Chain.cons (stepAt_unary 1084 _ _ _ rfl (by decide)) <|
  Chain.cons (stepAt_binary 1085 _ _ _ _ rfl (by decide) (by decide)) <|
  Chain.cons (stepAt_ternary 1086 _ _ _ _ _ rfl (by decide) (by decide) (by decide)) <|
  Chain.cons (stepAt_unary 1087 _ _ _ rfl (by decide)) <|
  Chain.cons (stepAt_unary 1088 _ _ _ rfl (by decide)) <|
  Chain.cons (stepAt_binary 1089 _ _ _ _ rfl (by decide) (by decide)) <|
  Chain.cons (stepAt_binary 1090 _ _ _ _ rfl (by decide) (by decide)) <|
  Chain.cons (stepAt_nullary 1091 _ _ rfl) <|
  Chain.cons (stepAt_unary 1092 _ _ _ rfl (by decide)) <|
  Chain.cons (stepAt_binary 1093 _ _ _ _ rfl (by decide) (by decide)) <|
  Chain.cons (stepAt_nullary 1094 _ _ rfl) <|
  Chain.cons (stepAt_unary 1095 _ _ _ rfl (by decide)) <|
  Chain.cons (stepAt_binary 1096 _ _ _ _ rfl (by decide) (by decide)) <|
  Chain.cons (stepAt_ternary 1097 _ _ _ _ _ rfl (by decide) (by decide) (by decide)) <|
  Chain.cons (stepAt_nullary 1098 _ _ rfl) <|
  Chain.cons (stepAt_unary 1099 _ _ _ rfl (by decide)) <|
  Chain.cons (stepAt_binary 1100 _ _ _ _ rfl (by decide) (by decide)) <|
  Chain.cons (stepAt_nullary 1101 _ _ rfl) <|
  Chain.cons (stepAt_unary 1102 _ _ _ rfl (by decide)) <|
  Chain.cons (stepAt_binary 1103 _ _ _ _ rfl (by decide) (by decide)) <|
  Chain.cons (stepAt_ternary 1104 _ _ _ _ _ rfl (by decide) (by decide) (by decide)) <|
  Chain.cons (stepAt_unary 1105 _ _ _ rfl (by decide)) <|
  Chain.cons (stepAt_unary 1106 _ _ _ rfl (by decide)) <|
  Chain.cons (stepAt_binary 1107 _ _ _ _ rfl (by decide) (by decide)) <|
  Chain.cons (stepAt_binary 1108 _ _ _ _ rfl (by decide) (by decide)) <|
  Chain.cons (stepAt_nullary 1109 _ _ rfl) <|
  Chain.cons (stepAt_unary 1110 _ _ _ rfl (by decide)) <|
  Chain.cons (stepAt_binary 1111 _ _ _ _ rfl (by decide) (by decide)) <|
  Chain.cons (stepAt_nullary 1112 _ _ rfl) <|
  Chain.cons (stepAt_unary 1113 _ _ _ rfl (by decide)) <|
  Chain.cons (stepAt_binary 1114 _ _ _ _ rfl (by decide) (by decide)) <|
  Chain.cons (stepAt_ternary 1115 _ _ _ _ _ rfl (by decide) (by decide) (by decide)) <|
  Chain.cons (stepAt_nullary 1116 _ _ rfl) <|
  Chain.cons (stepAt_unary 1117 _ _ _ rfl (by decide)) <|
  Chain.cons (stepAt_binary 1118 _ _ _ _ rfl (by decide) (by decide)) <|
  Chain.cons (stepAt_nullary 1119 _ _ rfl) <|
  Chain.cons (stepAt_unary 1120 _ _ _ rfl (by decide)) <|
  Chain.cons (stepAt_binary 1121 _ _ _ _ rfl (by decide) (by decide)) <|
  Chain.cons (stepAt_ternary 1122 _ _ _ _ _ rfl (by decide) (by decide) (by decide)) <|
  Chain.cons (stepAt_unary 1123 _ _ _ rfl (by decide)) <|
  Chain.cons (stepAt_unary 1124 _ _ _ rfl (by decide)) <|
  Chain.cons (stepAt_binary 1125 _ _ _ _ rfl (by decide) (by decide)) <|
  Chain.cons (stepAt_binary 1126 _ _ _ _ rfl (by decide) (by decide)) <|
  Chain.cons (stepAt_nullary 1127 _ _ rfl) <|
  Chain.cons (stepAt_unary 1128 _ _ _ rfl (by decide)) <|
  Chain.cons (stepAt_binary 1129 _ _ _ _ rfl (by decide) (by decide)) <|
  Chain.cons (stepAt_nullary 1130 _ _ rfl) <|
  Chain.cons (stepAt_unary 1131 _ _ _ rfl (by decide)) <|
  Chain.cons (stepAt_binary 1132 _ _ _ _ rfl (by decide) (by decide)) <|
  Chain.cons (stepAt_ternary 1133 _ _ _ _ _ rfl (by decide) (by decide) (by decide)) <|
  Chain.cons (stepAt_nullary 1134 _ _ rfl) <|
  Chain.cons (stepAt_unary 1135 _ _ _ rfl (by decide)) <|
  Chain.cons (stepAt_binary 1136 _ _ _ _ rfl (by decide) (by decide)) <|
  Chain.cons (stepAt_nullary 1137 _ _ rfl) <|
  Chain.cons (stepAt_unary 1138 _ _ _ rfl (by decide)) <|
  Chain.cons (stepAt_binary 1139 _ _ _ _ rfl (by decide) (by decide)) <|
  Chain.cons (stepAt_ternary 1140 _ _ _ _ _ rfl (by decide) (by decide) (by decide)) <|
  Chain.cons (stepAt_unary 1141 _ _ _ rfl (by decide)) <|
  Chain.cons (stepAt_unary 1142 _ _ _ rfl (by decide)) <|
  Chain.cons (stepAt_binary 1143 _ _ _ _ rfl (by decide) (by decide)) <|
  Chain.cons (stepAt_binary 1144 _ _ _ _ rfl (by decide) (by decide)) <|
  Chain.cons (stepAt_nullary 1145 _ _ rfl) <|
  Chain.cons (stepAt_unary 1146 _ _ _ rfl (by decide)) <|
  Chain.cons (stepAt_binary 1147 _ _ _ _ rfl (by decide) (by decide)) <|
  Chain.cons (stepAt_unary 1148 _ _ _ rfl (by decide)) <|
  Chain.cons (stepAt_unary 1149 _ _ _ rfl (by decide)) <|
  Chain.cons (stepAt_binary 1150 _ _ _ _ rfl (by decide) (by decide)) <|
  Chain.cons (stepAt_nullary 1151 _ _ rfl) <|
  Chain.cons (stepAt_unary 1152 _ _ _ rfl (by decide)) <|
  Chain.cons (stepAt_binary 1153 _ _ _ _ rfl (by decide) (by decide)) <|
  Chain.cons (stepAt_unary 1154 _ _ _ rfl (by decide)) <|
  Chain.cons (stepAt_unary 1155 _ _ _ rfl (by decide)) <|
  Chain.cons (stepAt_binary 1156 _ _ _ _ rfl (by decide) (by decide)) <|
  Chain.cons (stepAt_unary 1157 _ _ _ rfl (by decide)) <|
  Chain.cons (stepAt_unary 1158 _ _ _ rfl (by decide)) <|
  Chain.cons (stepAt_binary 1159 _ _ _ _ rfl (by decide) (by decide)) <|
  Chain.cons (stepAt_nullary 1160 _ _ rfl) <|
  Chain.cons (stepAt_unary 1161 _ _ _ rfl (by decide)) <|
  Chain.cons (stepAt_binary 1162 _ _ _ _ rfl (by decide) (by decide)) <|
  Chain.cons (stepAt_unary 1163 _ _ _ rfl (by decide)) <|
  Chain.cons (stepAt_unary 1164 _ _ _ rfl (by decide)) <|
  Chain.cons (stepAt_binary 1165 _ _ _ _ rfl (by decide) (by decide)) <|
  Chain.cons (stepAt_binary 1166 _ _ _ _ rfl (by decide) (by decide)) <|
  Chain.cons (stepAt_nullary 1167 _ _ rfl) <|
  Chain.cons (stepAt_unary 1168 _ _ _ rfl (by decide)) <|
  Chain.cons (stepAt_binary 1169 _ _ _ _ rfl (by decide) (by decide)) <|
  Chain.cons (stepAt_unary 1170 _ _ _ rfl (by decide)) <|
  Chain.cons (stepAt_unary 1171 _ _ _ rfl (by decide)) <|
  Chain.cons (stepAt_binary 1172 _ _ _ _ rfl (by decide) (by decide)) <|
  Chain.cons (stepAt_unary 1173 _ _ _ rfl (by decide)) <|
  Chain.cons (stepAt_unary 1174 _ _ _ rfl (by decide)) <|
  Chain.cons (stepAt_binary 1175 _ _ _ _ rfl (by decide) (by decide)) <|
  Chain.cons (stepAt_binary 1176 _ _ _ _ rfl (by decide) (by decide)) <|
  Chain.cons (stepAt_unary 1177 _ _ _ rfl (by decide)) <|
  Chain.cons (stepAt_unary 1178 _ _ _ rfl (by decide)) <|
  Chain.cons (stepAt_binary 1179 _ _ _ _ rfl (by decide) (by decide)) <|
  Chain.cons (stepAt_unary 1180 _ _ _ rfl (by decide)) <|
  Chain.cons (stepAt_unary 1181 _ _ _ rfl (by decide)) <|
  Chain.cons (stepAt_binary 1182 _ _ _ _ rfl (by decide) (by decide)) <|
  Chain.cons (stepAt_binary 1183 _ _ _ _ rfl (by decide) (by decide)) <|
  Chain.cons (stepAt_unary 1184 _ _ _ rfl (by decide)) <|
  Chain.cons (stepAt_nullary 1185 _ _ rfl) <|
  Chain.cons (stepAt_unary 1186 _ _ _ rfl (by decide)) <|
  Chain.cons (stepAt_binary 1187 _ _ _ _ rfl (by decide) (by decide)) <|
  Chain.cons (stepAt_nullary 1188 _ _ rfl) <|
  Chain.cons (stepAt_unary 1189 _ _ _ rfl (by decide)) <|
  Chain.cons (stepAt_binary 1190 _ _ _ _ rfl (by decide) (by decide)) <|
  Chain.cons (stepAt_ternary 1191 _ _ _ _ _ rfl (by decide) (by decide) (by decide)) <|
  Chain.cons (stepAt_unary 1192 _ _ _ rfl (by decide)) <|
  Chain.cons (stepAt_binary 1193 _ _ _ _ rfl (by decide) (by decide)) <|
  Chain.cons (stepAt_unary 1194 _ _ _ rfl (by decide)) <|
  Chain.cons (stepAt_reshape 1195 _ _ _ _ rfl (by decide)) <|
  Chain.cons (stepAt_nullary 1196 _ _ rfl) <|
  Chain.cons (stepAt_unary 1197 _ _ _ rfl (by decide)) <|
  Chain.cons (stepAt_binary 1198 _ _ _ _ rfl (by decide) (by decide)) <|
  Chain.cons (stepAt_nullary 1199 _ _ rfl) <|
  Chain.cons (stepAt_unary 1200 _ _ _ rfl (by decide)) <|
  Chain.cons (stepAt_binary 1201 _ _ _ _ rfl (by decide) (by decide)) <|
  Chain.cons (stepAt_nullary 1202 _ _ rfl) <|
  Chain.cons (stepAt_unary 1203 _ _ _ rfl (by decide)) <|
  Chain.cons (stepAt_binary 1204 _ _ _ _ rfl (by decide) (by decide)) <|
  Chain.cons (stepAt_unary 1205 _ _ _ rfl (by decide)) <|
  Chain.cons (stepAt_reshape 1206 _ _ _ _ rfl (by decide)) <|
  Chain.cons (stepAt_nullary 1207 _ _ rfl) <|
  Chain.cons (stepAt_unary 1208 _ _ _ rfl (by decide)) <|
  Chain.cons (stepAt_binary 1209 _ _ _ _ rfl (by decide) (by decide)) <|
  Chain.cons (stepAt_nullary 1210 _ _ rfl) <|
  Chain.cons (stepAt_unary 1211 _ _ _ rfl (by decide)) <|
  Chain.cons (stepAt_binary 1212 _ _ _ _ rfl (by decide) (by decide)) <|
  Chain.cons (stepAt_nullary 1213 _ _ rfl) <|
  Chain.cons (stepAt_unary 1214 _ _ _ rfl (by decide)) <|
  Chain.cons (stepAt_binary 1215 _ _ _ _ rfl (by decide) (by decide)) <|
  Chain.cons (stepAt_unary 1216 _ _ _ rfl (by decide)) <|
  Chain.cons (stepAt_unary 1217 _ _ _ rfl (by decide)) <|
  Chain.cons (stepAt_binary 1218 _ _ _ _ rfl (by decide) (by decide)) <|
  Chain.cons (stepAt_binary 1219 _ _ _ _ rfl (by decide) (by decide)) <|
  Chain.cons (stepAt_unary 1220 _ _ _ rfl (by decide)) <|
  Chain.cons (stepAt_nullary 1221 _ _ rfl) <|
  Chain.cons (stepAt_nullary 1222 _ _ rfl) <|
  Chain.nil
theorem hostOps0_48_length : (hostOps0_48 : List (HloOp τ sig (Elt F))).length = 150 := rfl

set_option maxHeartbeats 4000000 in
/-- Operations 1195 … 1200 of the program, writing buffers 1223 … 1228. -/
theorem hostOps0_49_chain : Chain 1223 (hostOps0_49 : List (HloOp τ sig (Elt F))) :=
  Chain.cons (stepAt_unary 1223 _ _ _ rfl (by decide)) <|
  Chain.cons (stepAt_unary 1224 _ _ _ rfl (by decide)) <|
  Chain.cons (stepAt_binary 1225 _ _ _ _ rfl (by decide) (by decide)) <|
  Chain.cons (stepAt_unary 1226 _ _ _ rfl (by decide)) <|
  Chain.cons (stepAt_unary 1227 _ _ _ rfl (by decide)) <|
  Chain.cons (stepAt_binary 1228 _ _ _ _ rfl (by decide) (by decide)) <|
  Chain.nil
theorem hostOps0_49_length : (hostOps0_49 : List (HloOp τ sig (Elt F))).length = 6 := rfl

set_option maxHeartbeats 4000000 in
/-- Operations 1201 … 1205 of the program, writing buffers 1229 … 1233. -/
theorem hostOps0_50_chain : Chain 1229 (hostOps0_50 : List (HloOp τ sig (Elt F))) :=
  Chain.cons (stepAt_nullary 1229 _ _ rfl) <|
  Chain.cons (stepAt_unary 1230 _ _ _ rfl (by decide)) <|
  Chain.cons (stepAt_binary 1231 _ _ _ _ rfl (by decide) (by decide)) <|
  Chain.cons (stepAt_nullary 1232 _ _ rfl) <|
  Chain.cons (stepAt_nullary 1233 _ _ rfl) <|
  Chain.nil
theorem hostOps0_50_length : (hostOps0_50 : List (HloOp τ sig (Elt F))).length = 5 := rfl

set_option maxHeartbeats 4000000 in
/-- Operations 1206 … 1211 of the program, writing buffers 1234 … 1239. -/
theorem hostOps0_51_chain : Chain 1234 (hostOps0_51 : List (HloOp τ sig (Elt F))) :=
  Chain.cons (stepAt_unary 1234 _ _ _ rfl (by decide)) <|
  Chain.cons (stepAt_unary 1235 _ _ _ rfl (by decide)) <|
  Chain.cons (stepAt_binary 1236 _ _ _ _ rfl (by decide) (by decide)) <|
  Chain.cons (stepAt_unary 1237 _ _ _ rfl (by decide)) <|
  Chain.cons (stepAt_unary 1238 _ _ _ rfl (by decide)) <|
  Chain.cons (stepAt_binary 1239 _ _ _ _ rfl (by decide) (by decide)) <|
  Chain.nil
theorem hostOps0_51_length : (hostOps0_51 : List (HloOp τ sig (Elt F))).length = 6 := rfl

set_option maxHeartbeats 4000000 in
/-- Operations 1212 … 1214 of the program, writing buffers 1240 … 1242. -/
theorem hostOps0_52_chain : Chain 1240 (hostOps0_52 : List (HloOp τ sig (Elt F))) :=
  Chain.cons (stepAt_unary 1240 _ _ _ rfl (by decide)) <|
  Chain.cons (stepAt_nullary 1241 _ _ rfl) <|
  Chain.cons (stepAt_nullary 1242 _ _ rfl) <|
  Chain.nil
theorem hostOps0_52_length : (hostOps0_52 : List (HloOp τ sig (Elt F))).length = 3 := rfl

set_option maxHeartbeats 4000000 in
/-- Operations 1215 … 1220 of the program, writing buffers 1243 … 1248. -/
theorem hostOps0_53_chain : Chain 1243 (hostOps0_53 : List (HloOp τ sig (Elt F))) :=
  Chain.cons (stepAt_unary 1243 _ _ _ rfl (by decide)) <|
  Chain.cons (stepAt_unary 1244 _ _ _ rfl (by decide)) <|
  Chain.cons (stepAt_binary 1245 _ _ _ _ rfl (by decide) (by decide)) <|
  Chain.cons (stepAt_unary 1246 _ _ _ rfl (by decide)) <|
  Chain.cons (stepAt_unary 1247 _ _ _ rfl (by decide)) <|
  Chain.cons (stepAt_binary 1248 _ _ _ _ rfl (by decide) (by decide)) <|
  Chain.nil
theorem hostOps0_53_length : (hostOps0_53 : List (HloOp τ sig (Elt F))).length = 6 := rfl

set_option maxHeartbeats 4000000 in
/-- Operations 1221 … 1225 of the program, writing buffers 1249 … 1253. -/
theorem hostOps0_54_chain : Chain 1249 (hostOps0_54 : List (HloOp τ sig (Elt F))) :=
  Chain.cons (stepAt_nullary 1249 _ _ rfl) <|
  Chain.cons (stepAt_unary 1250 _ _ _ rfl (by decide)) <|
  Chain.cons (stepAt_binary 1251 _ _ _ _ rfl (by decide) (by decide)) <|
  Chain.cons (stepAt_nullary 1252 _ _ rfl) <|
  Chain.cons (stepAt_nullary 1253 _ _ rfl) <|
  Chain.nil
theorem hostOps0_54_length : (hostOps0_54 : List (HloOp τ sig (Elt F))).length = 5 := rfl

set_option maxHeartbeats 4000000 in
/-- Operations 1226 … 1231 of the program, writing buffers 1254 … 1259. -/
theorem hostOps0_55_chain : Chain 1254 (hostOps0_55 : List (HloOp τ sig (Elt F))) :=
  Chain.cons (stepAt_unary 1254 _ _ _ rfl (by decide)) <|
  Chain.cons (stepAt_unary 1255 _ _ _ rfl (by decide)) <|
  Chain.cons (stepAt_binary 1256 _ _ _ _ rfl (by decide) (by decide)) <|
  Chain.cons (stepAt_unary 1257 _ _ _ rfl (by decide)) <|
  Chain.cons (stepAt_unary 1258 _ _ _ rfl (by decide)) <|
  Chain.cons (stepAt_binary 1259 _ _ _ _ rfl (by decide) (by decide)) <|
  Chain.nil
theorem hostOps0_55_length : (hostOps0_55 : List (HloOp τ sig (Elt F))).length = 6 := rfl

set_option maxHeartbeats 4000000 in
/-- Operations 1232 … 1381 of the program, writing buffers 1260 … 1409. -/
theorem hostOps0_56_chain : Chain 1260 (hostOps0_56 : List (HloOp τ sig (Elt F))) :=
  Chain.cons (stepAt_nullary 1260 _ _ rfl) <|
  Chain.cons (stepAt_unary 1261 _ _ _ rfl (by decide)) <|
  Chain.cons (stepAt_binary 1262 _ _ _ _ rfl (by decide) (by decide)) <|
  Chain.cons (stepAt_nullary 1263 _ _ rfl) <|
  Chain.cons (stepAt_unary 1264 _ _ _ rfl (by decide)) <|
  Chain.cons (stepAt_binary 1265 _ _ _ _ rfl (by decide) (by decide)) <|
  Chain.cons (stepAt_ternary 1266 _ _ _ _ _ rfl (by decide) (by decide) (by decide)) <|
  Chain.cons (stepAt_nullary 1267 _ _ rfl) <|
  Chain.cons (stepAt_unary 1268 _ _ _ rfl (by decide)) <|
  Chain.cons (stepAt_binary 1269 _ _ _ _ rfl (by decide) (by decide)) <|
  Chain.cons (stepAt_nullary 1270 _ _ rfl) <|
  Chain.cons (stepAt_unary 1271 _ _ _ rfl (by decide)) <|
  Chain.cons (stepAt_binary 1272 _ _ _ _ rfl (by decide) (by decide)) <|
  Chain.cons (stepAt_ternary 1273 _ _ _ _ _ rfl (by decide) (by decide) (by decide)) <|
  Chain.cons (stepAt_unary 1274 _ _ _ rfl (by decide)) <|
  Chain.cons (stepAt_unary 1275 _ _ _ rfl (by decide)) <|
  Chain.cons (stepAt_binary 1276 _ _ _ _ rfl (by decide) (by decide)) <|
  Chain.cons (stepAt_binary 1277 _ _ _ _ rfl (by decide) (by decide)) <|
  Chain.cons (stepAt_nullary 1278 _ _ rfl) <|
  Chain.cons (stepAt_unary 1279 _ _ _ rfl (by decide)) <|
  Chain.cons (stepAt_binary 1280 _ _ _ _ rfl (by decide) (by decide)) <|
  Chain.cons (stepAt_nullary 1281 _ _ rfl) <|
  Chain.cons (stepAt_unary 1282 _ _ _ rfl (by decide)) <|
  Chain.cons (stepAt_binary 1283 _ _ _ _ rfl (by decide) (by decide)) <|
  Chain.cons (stepAt_ternary 1284 _ _ _ _ _ rfl (by decide) (by decide) (by decide)) <|
  Chain.cons (stepAt_nullary 1285 _ _ rfl) <|
  Chain.cons (stepAt_unary 1286 _ _ _ rfl (by decide)) <|
  Chain.cons (stepAt_binary 1287 _ _ _ _ rfl (by decide) (by decide)) <|
  Chain.cons (stepAt_nullary 1288 _ _ rfl) <|
  Chain.cons (stepAt_unary 1289 _ _ _ rfl (by decide)) <|
  Chain.cons (stepAt_binary 1290 _ _ _ _ rfl (by decide) (by decide)) <|
  Chain.cons (stepAt_ternary 1291 _ _ _ _ _ rfl (by decide) (by decide) (by decide)) <|
  Chain.cons (stepAt_unary 1292 _ _ _ rfl (by decide)) <|
  Chain.cons (stepAt_unary 1293 _ _ _ rfl (by decide)) <|
  Chain.cons (stepAt_binary 1294 _ _ _ _ rfl (by decide) (by decide)) <|
  Chain.cons (stepAt_binary 1295 _ _ _ _ rfl (by decide) (by decide)) <|
  Chain.cons (stepAt_nullary 1296 _ _ rfl) <|
  Chain.cons (stepAt_unary 1297 _ _ _ rfl (by decide)) <|
  Chain.cons (stepAt_binary 1298 _ _ _ _ rfl (by decide) (by decide)) <|
  Chain.cons (stepAt_nullary 1299 _ _ rfl) <|
  Chain.cons (stepAt_unary 1300 _ _ _ rfl (by decide)) <|
  Chain.cons (stepAt_binary 1301 _ _ _ _ rfl (by decide) (by decide)) <|
  Chain.cons (stepAt_ternary 1302 _ _ _ _ _ rfl (by decide) (by decide) (by decide)) <|
  Chain.cons (stepAt_nullary 1303 _ _ rfl) <|
  Chain.cons (stepAt_unary 1304 _ _ _ rfl (by decide)) <|
  Chain.cons (stepAt_binary 1305 _ _ _ _ rfl (by decide) (by decide)) <|
  Chain.cons (stepAt_nullary 1306 _ _ rfl) <|
  Chain.cons (stepAt_unary 1307 _ _ _ rfl (by decide)) <|
  Chain.cons (stepAt_binary 1308 _ _ _ _ rfl (by decide) (by decide)) <|
  Chain.cons (stepAt_ternary 1309 _ _ _ _ _ rfl (by decide) (by decide) (by decide)) <|
  Chain.cons (stepAt_unary 1310 _ _ _ rfl (by decide)) <|
  Chain.cons (stepAt_unary 1311 _ _ _ rfl (by decide)) <|
  Chain.cons (stepAt_binary 1312 _ _ _ _ rfl (by decide) (by decide)) <|
  Chain.cons (stepAt_binary 1313 _ _ _ _ rfl (by decide) (by decide)) <|
  Chain.cons (stepAt_nullary 1314 _ _ rfl) <|
  Chain.cons (stepAt_unary 1315 _ _ _ rfl (by decide)) <|
  Chain.cons (stepAt_binary 1316 _ _ _ _ rfl (by decide) (by decide)) <|
  Chain.cons (stepAt_nullary 1317 _ _ rfl) <|
  Chain.cons (stepAt_unary 1318 _ _ _ rfl (by decide)) <|
  Chain.cons (stepAt_binary 1319 _ _ _ _ rfl (by decide) (by decide)) <|
  Chain.cons (stepAt_ternary 1320 _ _ _ _ _ rfl (by decide) (by decide) (by decide)) <|
  Chain.cons (stepAt_nullary 1321 _ _ rfl) <|
  Chain.cons (stepAt_unary 1322 _ _ _ rfl (by decide)) <|
  Chain.cons (stepAt_binary 1323 _ _ _ _ rfl (by decide) (by decide)) <|
  Chain.cons (stepAt_nullary 1324 _ _ rfl) <|
  Chain.cons (stepAt_unary 1325 _ _ _ rfl (by decide)) <|
  Chain.cons (stepAt_binary 1326 _ _ _ _ rfl (by decide) (by decide)) <|
  Chain.cons (stepAt_ternary 1327 _ _ _ _ _ rfl (by decide) (by decide) (by decide)) <|
  Chain.cons (stepAt_unary 1328 _ _ _ rfl (by decide)) <|
  Chain.cons (stepAt_unary 1329 _ _ _ rfl (by decide)) <|
  Chain.cons (stepAt_binary 1330 _ _ _ _ rfl (by decide) (by decide)) <|
  Chain.cons (stepAt_binary 1331 _ _ _ _ rfl (by decide) (by decide)) <|
  Chain.cons (stepAt_nullary 1332 _ _ rfl) <|
  Chain.cons (stepAt_unary 1333 _ _ _ rfl (by decide)) <|
  Chain.cons (stepAt_binary 1334 _ _ _ _ rfl (by decide) (by decide)) <|
  Chain.cons (stepAt_unary 1335 _ _ _ rfl (by decide)) <|
  Chain.cons (stepAt_unary 1336 _ _ _ rfl (by decide)) <|
  Chain.cons (stepAt_binary 1337 _ _ _ _ rfl (by decide) (by decide)) <|
  Chain.cons (stepAt_nullary 1338 _ _ rfl) <|
  Chain.cons (stepAt_unary 1339 _ _ _ rfl (by decide)) <|
  Chain.cons (stepAt_binary 1340 _ _ _ _ rfl (by decide) (by decide)) <|
  Chain.cons (stepAt_unary 1341 _ _ _ rfl (by decide)) <|
  Chain.cons (stepAt_unary 1342 _ _ _ rfl (by decide)) <|
  Chain.cons (stepAt_binary 1343 _ _ _ _ rfl (by decide) (by decide)) <|
  Chain.cons (stepAt_unary 1344 _ _ _ rfl (by decide)) <|
  Chain.cons (stepAt_unary 1345 _ _ _ rfl (by decide)) <|
  Chain.cons (stepAt_binary 1346 _ _ _ _ rfl (by decide) (by decide)) <|
  Chain.cons (stepAt_nullary 1347 _ _ rfl) <|
  Chain.cons (stepAt_unary 1348 _ _ _ rfl (by decide)) <|
  Chain.cons (stepAt_binary 1349 _ _ _ _ rfl (by decide) (by decide)) <|
  Chain.cons (stepAt_unary 1350 _ _ _ rfl (by decide)) <|
  Chain.cons (stepAt_unary 1351 _ _ _ rfl (by decide)) <|
  Chain.cons (stepAt_binary 1352 _ _ _ _ rfl (by decide) (by decide)) <|
  Chain.cons (stepAt_binary 1353 _ _ _ _ rfl (by decide) (by decide)) <|
  Chain.cons (stepAt_nullary 1354 _ _ rfl) <|
  Chain.cons (stepAt_unary 1355 _ _ _ rfl (by decide)) <|
  Chain.cons (stepAt_binary 1356 _ _ _ _ rfl (by decide) (by decide)) <|
  Chain.cons (stepAt_unary 1357 _ _ _ rfl (by decide)) <|
  Chain.cons (stepAt_unary 1358 _ _ _ rfl (by decide)) <|
  Chain.cons (stepAt_binary 1359 _ _ _ _ rfl (by decide) (by decide)) <|
  Chain.cons (stepAt_unary 1360 _ _ _ rfl (by decide)) <|
  Chain.cons (stepAt_unary 1361 _ _ _ rfl (by decide)) <|
  Chain.cons (stepAt_binary 1362 _ _ _ _ rfl (by decide) (by decide)) <|
  Chain.cons (stepAt_binary 1363 _ _ _ _ rfl (by decide) (by decide)) <|
  Chain.cons (stepAt_unary 1364 _ _ _ rfl (by decide)) <|
  Chain.cons (stepAt_unary 1365 _ _ _ rfl (by decide)) <|
  Chain.cons (stepAt_binary 1366 _ _ _ _ rfl (by decide) (by decide)) <|
  Chain.cons (stepAt_unary 1367 _ _ _ rfl (by decide)) <|
  Chain.cons (stepAt_unary 1368 _ _ _ rfl (by decide)) <|
  Chain.cons (stepAt_binary 1369 _ _ _ _ rfl (by decide) (by decide)) <|
  Chain.cons (stepAt_binary 1370 _ _ _ _ rfl (by decide) (by decide)) <|
  Chain.cons (stepAt_unary 1371 _ _ _ rfl (by decide)) <|
  Chain.cons (stepAt_nullary 1372 _ _ rfl) <|
  Chain.cons (stepAt_unary 1373 _ _ _ rfl (by decide)) <|
  Chain.cons (stepAt_binary 1374 _ _ _ _ rfl (by decide) (by decide)) <|
  Chain.cons (stepAt_nullary 1375 _ _ rfl) <|
  Chain.cons (stepAt_unary 1376 _ _ _ rfl (by decide)) <|
  Chain.cons (stepAt_binary 1377 _ _ _ _ rfl (by decide) (by decide)) <|
  Chain.cons (stepAt_ternary 1378 _ _ _ _ _ rfl (by decide) (by decide) (by decide)) <|
  Chain.cons (stepAt_unary 1379 _ _ _ rfl (by decide)) <|
  Chain.cons (stepAt_binary 1380 _ _ _ _ rfl (by decide) (by decide)) <|
  Chain.cons (stepAt_unary 1381 _ _ _ rfl (by decide)) <|
  Chain.cons (stepAt_reshape 1382 _ _ _ _ rfl (by decide)) <|
  Chain.cons (stepAt_nullary 1383 _ _ rfl) <|
  Chain.cons (stepAt_unary 1384 _ _ _ rfl (by decide)) <|
  Chain.cons (stepAt_binary 1385 _ _ _ _ rfl (by decide) (by decide)) <|
  Chain.cons (stepAt_nullary 1386 _ _ rfl) <|
  Chain.cons (stepAt_unary 1387 _ _ _ rfl (by decide)) <|
  Chain.cons (stepAt_binary 1388 _ _ _ _ rfl (by decide) (by decide)) <|
  Chain.cons (stepAt_nullary 1389 _ _ rfl) <|
  Chain.cons (stepAt_unary 1390 _ _ _ rfl (by decide)) <|
  Chain.cons (stepAt_binary 1391 _ _ _ _ rfl (by decide) (by decide)) <|
  Chain.cons (stepAt_unary 1392 _ _ _ rfl (by decide)) <|
  Chain.cons (stepAt_reshape 1393 _ _ _ _ rfl (by decide)) <|
  Chain.cons (stepAt_nullary 1394 _ _ rfl) <|
  Chain.cons (stepAt_unary 1395 _ _ _ rfl (by decide)) <|
  Chain.cons (stepAt_binary 1396 _ _ _ _ rfl (by decide) (by decide)) <|
  Chain.cons (stepAt_nullary 1397 _ _ rfl) <|
  Chain.cons (stepAt_unary 1398 _ _ _ rfl (by decide)) <|
  Chain.cons (stepAt_binary 1399 _ _ _ _ rfl (by decide) (by decide)) <|
  Chain.cons (stepAt_nullary 1400 _ _ rfl) <|
  Chain.cons (stepAt_unary 1401 _ _ _ rfl (by decide)) <|
  Chain.cons (stepAt_binary 1402 _ _ _ _ rfl (by decide) (by decide)) <|
  Chain.cons (stepAt_unary 1403 _ _ _ rfl (by decide)) <|
  Chain.cons (stepAt_unary 1404 _ _ _ rfl (by decide)) <|
  Chain.cons (stepAt_binary 1405 _ _ _ _ rfl (by decide) (by decide)) <|
  Chain.cons (stepAt_binary 1406 _ _ _ _ rfl (by decide) (by decide)) <|
  Chain.cons (stepAt_unary 1407 _ _ _ rfl (by decide)) <|
  Chain.cons (stepAt_nullary 1408 _ _ rfl) <|
  Chain.cons (stepAt_nullary 1409 _ _ rfl) <|
  Chain.nil
theorem hostOps0_56_length : (hostOps0_56 : List (HloOp τ sig (Elt F))).length = 150 := rfl

set_option maxHeartbeats 4000000 in
/-- Operations 1382 … 1387 of the program, writing buffers 1410 … 1415. -/
theorem hostOps0_57_chain : Chain 1410 (hostOps0_57 : List (HloOp τ sig (Elt F))) :=
  Chain.cons (stepAt_unary 1410 _ _ _ rfl (by decide)) <|
  Chain.cons (stepAt_unary 1411 _ _ _ rfl (by decide)) <|
  Chain.cons (stepAt_binary 1412 _ _ _ _ rfl (by decide) (by decide)) <|
  Chain.cons (stepAt_unary 1413 _ _ _ rfl (by decide)) <|
  Chain.cons (stepAt_unary 1414 _ _ _ rfl (by decide)) <|
  Chain.cons (stepAt_binary 1415 _ _ _ _ rfl (by decide) (by decide)) <|
  Chain.nil
theorem hostOps0_57_length : (hostOps0_57 : List (HloOp τ sig (Elt F))).length = 6 := rfl

set_option maxHeartbeats 4000000 in
/-- Operations 1388 … 1392 of the program, writing buffers 1416 … 1420. -/
theorem hostOps0_58_chain : Chain 1416 (hostOps0_58 : List (HloOp τ sig (Elt F))) :=
  Chain.cons (stepAt_nullary 1416 _ _ rfl) <|
  Chain.cons (stepAt_unary 1417 _ _ _ rfl (by decide)) <|
  Chain.cons (stepAt_binary 1418 _ _ _ _ rfl (by decide) (by decide)) <|
  Chain.cons (stepAt_nullary 1419 _ _ rfl) <|
  Chain.cons (stepAt_nullary 1420 _ _ rfl) <|
  Chain.nil
theorem hostOps0_58_length : (hostOps0_58 : List (HloOp τ sig (Elt F))).length = 5 := rfl

set_option maxHeartbeats 4000000 in
/-- Operations 1393 … 1398 of the program, writing buffers 1421 … 1426. -/
theorem hostOps0_59_chain : Chain 1421 (hostOps0_59 : List (HloOp τ sig (Elt F))) :=
  Chain.cons (stepAt_unary 1421 _ _ _ rfl (by decide)) <|
  Chain.cons (stepAt_unary 1422 _ _ _ rfl (by decide)) <|
  Chain.cons (stepAt_binary 1423 _ _ _ _ rfl (by decide) (by decide)) <|
  Chain.cons (stepAt_unary 1424 _ _ _ rfl (by decide)) <|
  Chain.cons (stepAt_unary 1425 _ _ _ rfl (by decide)) <|
  Chain.cons (stepAt_binary 1426 _ _ _ _ rfl (by decide) (by decide)) <|
  Chain.nil
theorem hostOps0_59_length : (hostOps0_59 : List (HloOp τ sig (Elt F))).length = 6 := rfl

set_option maxHeartbeats 4000000 in
/-- Operations 1399 … 1401 of the program, writing buffers 1427 … 1429. -/
theorem hostOps0_60_chain : Chain 1427 (hostOps0_60 : List (HloOp τ sig (Elt F))) :=
  Chain.cons (stepAt_unary 1427 _ _ _ rfl (by decide)) <|
  Chain.cons (stepAt_nullary 1428 _ _ rfl) <|
  Chain.cons (stepAt_nullary 1429 _ _ rfl) <|
  Chain.nil
theorem hostOps0_60_length : (hostOps0_60 : List (HloOp τ sig (Elt F))).length = 3 := rfl

set_option maxHeartbeats 4000000 in
/-- Operations 1402 … 1407 of the program, writing buffers 1430 … 1435. -/
theorem hostOps0_61_chain : Chain 1430 (hostOps0_61 : List (HloOp τ sig (Elt F))) :=
  Chain.cons (stepAt_unary 1430 _ _ _ rfl (by decide)) <|
  Chain.cons (stepAt_unary 1431 _ _ _ rfl (by decide)) <|
  Chain.cons (stepAt_binary 1432 _ _ _ _ rfl (by decide) (by decide)) <|
  Chain.cons (stepAt_unary 1433 _ _ _ rfl (by decide)) <|
  Chain.cons (stepAt_unary 1434 _ _ _ rfl (by decide)) <|
  Chain.cons (stepAt_binary 1435 _ _ _ _ rfl (by decide) (by decide)) <|
  Chain.nil
theorem hostOps0_61_length : (hostOps0_61 : List (HloOp τ sig (Elt F))).length = 6 := rfl

set_option maxHeartbeats 4000000 in
/-- Operations 1408 … 1412 of the program, writing buffers 1436 … 1440. -/
theorem hostOps0_62_chain : Chain 1436 (hostOps0_62 : List (HloOp τ sig (Elt F))) :=
  Chain.cons (stepAt_nullary 1436 _ _ rfl) <|
  Chain.cons (stepAt_unary 1437 _ _ _ rfl (by decide)) <|
  Chain.cons (stepAt_binary 1438 _ _ _ _ rfl (by decide) (by decide)) <|
  Chain.cons (stepAt_nullary 1439 _ _ rfl) <|
  Chain.cons (stepAt_nullary 1440 _ _ rfl) <|
  Chain.nil
theorem hostOps0_62_length : (hostOps0_62 : List (HloOp τ sig (Elt F))).length = 5 := rfl

set_option maxHeartbeats 4000000 in
/-- Operations 1413 … 1418 of the program, writing buffers 1441 … 1446. -/
theorem hostOps0_63_chain : Chain 1441 (hostOps0_63 : List (HloOp τ sig (Elt F))) :=
  Chain.cons (stepAt_unary 1441 _ _ _ rfl (by decide)) <|
  Chain.cons (stepAt_unary 1442 _ _ _ rfl (by decide)) <|
  Chain.cons (stepAt_binary 1443 _ _ _ _ rfl (by decide) (by decide)) <|
  Chain.cons (stepAt_unary 1444 _ _ _ rfl (by decide)) <|
  Chain.cons (stepAt_unary 1445 _ _ _ rfl (by decide)) <|
  Chain.cons (stepAt_binary 1446 _ _ _ _ rfl (by decide) (by decide)) <|
  Chain.nil
theorem hostOps0_63_length : (hostOps0_63 : List (HloOp τ sig (Elt F))).length = 6 := rfl

set_option maxHeartbeats 4000000 in
/-- Operations 1419 … 1568 of the program, writing buffers 1447 … 1596. -/
theorem hostOps0_64_chain : Chain 1447 (hostOps0_64 : List (HloOp τ sig (Elt F))) :=
  Chain.cons (stepAt_nullary 1447 _ _ rfl) <|
  Chain.cons (stepAt_unary 1448 _ _ _ rfl (by decide)) <|
  Chain.cons (stepAt_binary 1449 _ _ _ _ rfl (by decide) (by decide)) <|
  Chain.cons (stepAt_nullary 1450 _ _ rfl) <|
  Chain.cons (stepAt_unary 1451 _ _ _ rfl (by decide)) <|
  Chain.cons (stepAt_binary 1452 _ _ _ _ rfl (by decide) (by decide)) <|
  Chain.cons (stepAt_ternary 1453 _ _ _ _ _ rfl (by decide) (by decide) (by decide)) <|
  Chain.cons (stepAt_nullary 1454 _ _ rfl) <|
  Chain.cons (stepAt_unary 1455 _ _ _ rfl (by decide)) <|
  Chain.cons (stepAt_binary 1456 _ _ _ _ rfl (by decide) (by decide)) <|
  Chain.cons (stepAt_nullary 1457 _ _ rfl) <|
  Chain.cons (stepAt_unary 1458 _ _ _ rfl (by decide)) <|
  Chain.cons (stepAt_binary 1459 _ _ _ _ rfl (by decide) (by decide)) <|
  Chain.cons (stepAt_ternary 1460 _ _ _ _ _ rfl (by decide) (by decide) (by decide)) <|
  Chain.cons (stepAt_unary 1461 _ _ _ rfl (by decide)) <|
  Chain.cons (stepAt_unary 1462 _ _ _ rfl (by decide)) <|
  Chain.cons (stepAt_binary 1463 _ _ _ _ rfl (by decide) (by decide)) <|
  Chain.cons (stepAt_binary 1464 _ _ _ _ rfl (by decide) (by decide)) <|
  Chain.cons (stepAt_nullary 1465 _ _ rfl) <|
  Chain.cons (stepAt_unary 1466 _ _ _ rfl (by decide)) <|
  Chain.cons (stepAt_binary 1467 _ _ _ _ rfl (by decide) (by decide)) <|
  Chain.cons (stepAt_nullary 1468 _ _ rfl) <|
  Chain.cons (stepAt_unary 1469 _ _ _ rfl (by decide)) <|
  Chain.cons (stepAt_binary 1470 _ _ _ _ rfl (by decide) (by decide)) <|
  Chain.cons (stepAt_ternary 1471 _ _ _ _ _ rfl (by decide) (by decide) (by decide)) <|
  Chain.cons (stepAt_nullary 1472 _ _ rfl) <|
  Chain.cons (stepAt_unary 1473 _ _ _ rfl (by decide)) <|
  Chain.cons (stepAt_binary 1474 _ _ _ _ rfl (by decide) (by decide)) <|
  Chain.cons (stepAt_nullary 1475 _ _ rfl) <|
  Chain.cons (stepAt_unary 1476 _ _ _ rfl (by decide)) <|
  Chain.cons (stepAt_binary 1477 _ _ _ _ rfl (by decide) (by decide)) <|
  Chain.cons (stepAt_ternary 1478 _ _ _ _ _ rfl (by decide) (by decide) (by decide)) <|
  Chain.cons (stepAt_unary 1479 _ _ _ rfl (by decide)) <|
  Chain.cons (stepAt_unary 1480 _ _ _ rfl (by decide)) <|
  Chain.cons (stepAt_binary 1481 _ _ _ _ rfl (by decide) (by decide)) <|
  Chain.cons (stepAt_binary 1482 _ _ _ _ rfl (by decide) (by decide)) <|
  Chain.cons (stepAt_nullary 1483 _ _ rfl) <|
  Chain.cons (stepAt_unary 1484 _ _ _ rfl (by decide)) <|
  Chain.cons (stepAt_binary 1485 _ _ _ _ rfl (by decide) (by decide)) <|
  Chain.cons (stepAt_nullary 1486 _ _ rfl) <|
  Chain.cons (stepAt_unary 1487 _ _ _ rfl (by decide)) <|
  Chain.cons (stepAt_binary 1488 _ _ _ _ rfl (by decide) (by decide)) <|
  Chain.cons (stepAt_ternary 1489 _ _ _ _ _ rfl (by decide) (by decide) (by decide)) <|
  Chain.cons (stepAt_nullary 1490 _ _ rfl) <|
  Chain.cons (stepAt_unary 1491 _ _ _ rfl (by decide)) <|
  Chain.cons (stepAt_binary 1492 _ _ _ _ rfl (by decide) (by decide)) <|
  Chain.cons (stepAt_nullary 1493 _ _ rfl) <|
  Chain.cons (stepAt_unary 1494 _ _ _ rfl (by decide)) <|
  Chain.cons (stepAt_binary 1495 _ _ _ _ rfl (by decide) (by decide)) <|
  Chain.cons (stepAt_ternary 1496 _ _ _ _ _ rfl (by decide) (by decide) (by decide)) <|
  Chain.cons (stepAt_unary 1497 _ _ _ rfl (by decide)) <|
  Chain.cons (stepAt_unary 1498 _ _ _ rfl (by decide)) <|
  Chain.cons (stepAt_binary 1499 _ _ _ _ rfl (by decide) (by decide)) <|
  Chain.cons (stepAt_binary 1500 _ _ _ _ rfl (by decide) (by decide)) <|
  Chain.cons (stepAt_nullary 1501 _ _ rfl) <|
  Chain.cons (stepAt_unary 1502 _ _ _ rfl (by decide)) <|
  Chain.cons (stepAt_binary 1503 _ _ _ _ rfl (by decide) (by decide)) <|
  Chain.cons (stepAt_nullary 1504 _ _ rfl) <|
  Chain.cons (stepAt_unary 1505 _ _ _ rfl (by decide)) <|
  Chain.cons (stepAt_binary 1506 _ _ _ _ rfl (by decide) (by decide)) <|
  Chain.cons (stepAt_ternary 1507 _ _ _ _ _ rfl (by decide) (by decide) (by decide)) <|
  Chain.cons (stepAt_nullary 1508 _ _ rfl) <|
  Chain.cons (stepAt_unary 1509 _ _ _ rfl (by decide)) <|
  Chain.cons (stepAt_binary 1510 _ _ _ _ rfl (by decide) (by decide)) <|
  Chain.cons (stepAt_nullary 1511 _ _ rfl) <|
  Chain.cons (stepAt_unary 1512 _ _ _ rfl (by decide)) <|
  Chain.cons (stepAt_binary 1513 _ _ _ _ rfl (by decide) (by decide)) <|
  Chain.cons (stepAt_ternary 1514 _ _ _ _ _ rfl (by decide) (by decide) (by decide)) <|
  Chain.cons (stepAt_unary 1515 _ _ _ rfl (by decide)) <|
  Chain.cons (stepAt_unary 1516 _ _ _ rfl (by decide)) <|
  Chain.cons (stepAt_binary 1517 _ _ _ _ rfl (by decide) (by decide)) <|
  Chain.cons (stepAt_binary 1518 _ _ _ _ rfl (by decide) (by decide)) <|
  Chain.cons (stepAt_nullary 1519 _ _ rfl) <|
  Chain.cons (stepAt_unary 1520 _ _ _ rfl (by decide)) <|
  Chain.cons (stepAt_binary 1521 _ _ _ _ rfl (by decide) (by decide)) <|
  Chain.cons (stepAt_unary 1522 _ _ _ rfl (by decide)) <|
  Chain.cons (stepAt_unary 1523 _ _ _ rfl (by decide)) <|
  Chain.cons (stepAt_binary 1524 _ _ _ _ rfl (by decide) (by decide)) <|
  Chain.cons (stepAt_nullary 1525 _ _ rfl) <|
  Chain.cons (stepAt_unary 1526 _ _ _ rfl (by decide)) <|
  Chain.cons (stepAt_binary 1527 _ _ _ _ rfl (by decide) (by decide)) <|
  Chain.cons (stepAt_unary 1528 _ _ _ rfl (by decide)) <|
  Chain.cons (stepAt_unary 1529 _ _ _ rfl (by decide)) <|
  Chain.cons (stepAt_binary 1530 _ _ _ _ rfl (by decide) (by decide)) <|
  Chain.cons (stepAt_unary 1531 _ _ _ rfl (by decide)) <|
  Chain.cons (stepAt_unary 1532 _ _ _ rfl (by decide)) <|
  Chain.cons (stepAt_binary 1533 _ _ _ _ rfl (by decide) (by decide)) <|
  Chain.cons (stepAt_nullary 1534 _ _ rfl) <|
  Chain.cons (stepAt_unary 1535 _ _ _ rfl (by decide)) <|
  Chain.cons (stepAt_binary 1536 _ _ _ _ rfl (by decide) (by decide)) <|
  Chain.cons (stepAt_unary 1537 _ _ _ rfl (by decide)) <|
  Chain.cons (stepAt_unary 1538 _ _ _ rfl (by decide)) <|
  Chain.cons (stepAt_binary 1539 _ _ _ _ rfl (by decide) (by decide)) <|
  Chain.cons (stepAt_binary 1540 _ _ _ _ rfl (by decide) (by decide)) <|
  Chain.cons (stepAt_nullary 1541 _ _ rfl) <|
  Chain.cons (stepAt_unary 1542 _ _ _ rfl (by decide)) <|
  Chain.cons (stepAt_binary 1543 _ _ _ _ rfl (by decide) (by decide)) <|
  Chain.cons (stepAt_unary 1544 _ _ _ rfl (by decide)) <|
  Chain.cons (stepAt_unary 1545 _ _ _ rfl (by decide)) <|
  Chain.cons (stepAt_binary 1546 _ _ _ _ rfl (by decide) (by decide)) <|
  Chain.cons (stepAt_unary 1547 _ _ _ rfl (by decide)) <|
  Chain.cons (stepAt_unary 1548 _ _ _ rfl (by decide)) <|
  Chain.cons (stepAt_binary 1549 _ _ _ _ rfl (by decide) (by decide)) <|
  Chain.cons (stepAt_binary 1550 _ _ _ _ rfl (by decide) (by decide)) <|
  Chain.cons (stepAt_unary 1551 _ _ _ rfl (by decide)) <|
  Chain.cons (stepAt_unary 1552 _ _ _ rfl (by decide)) <|
  Chain.cons (stepAt_binary 1553 _ _ _ _ rfl (by decide) (by decide)) <|
  Chain.cons (stepAt_unary 1554 _ _ _ rfl (by decide)) <|
  Chain.cons (stepAt_unary 1555 _ _ _ rfl (by decide)) <|
  Chain.cons (stepAt_binary 1556 _ _ _ _ rfl (by decide) (by decide)) <|
  Chain.cons (stepAt_binary 1557 _ _ _ _ rfl (by decide) (by decide)) <|
  Chain.cons (stepAt_unary 1558 _ _ _ rfl (by decide)) <|
  Chain.cons (stepAt_nullary 1559 _ _ rfl) <|
  Chain.cons (stepAt_unary 1560 _ _ _ rfl (by decide)) <|
  Chain.cons (stepAt_binary 1561 _ _ _ _ rfl (by decide) (by decide)) <|
  Chain.cons (stepAt_nullary 1562 _ _ rfl) <|
  Chain.cons (stepAt_unary 1563 _ _ _ rfl (by decide)) <|
  Chain.cons (stepAt_binary 1564 _ _ _ _ rfl (by decide) (by decide)) <|
  Chain.cons (stepAt_ternary 1565 _ _ _ _ _ rfl (by decide) (by decide) (by decide)) <|
  Chain.cons (stepAt_unary 1566 _ _ _ rfl (by decide)) <|
  Chain.cons (stepAt_binary 1567 _ _ _ _ rfl (by decide) (by decide)) <|
  Chain.cons (stepAt_unary 1568 _ _ _ rfl (by decide)) <|
  Chain.cons (stepAt_reshape 1569 _ _ _ _ rfl (by decide)) <|
  Chain.cons (stepAt_nullary 1570 _ _ rfl) <|
  Chain.cons (stepAt_unary 1571 _ _ _ rfl (by decide)) <|
  Chain.cons (stepAt_binary 1572 _ _ _ _ rfl (by decide) (by decide)) <|
  Chain.cons (stepAt_nullary 1573 _ _ rfl) <|
  Chain.cons (stepAt_unary 1574 _ _ _ rfl (by decide)) <|
  Chain.cons (stepAt_binary 1575 _ _ _ _ rfl (by decide) (by decide)) <|
  Chain.cons (stepAt_nullary 1576 _ _ rfl) <|
  Chain.cons (stepAt_unary 1577 _ _ _ rfl (by decide)) <|
  Chain.cons (stepAt_binary 1578 _ _ _ _ rfl (by decide) (by decide)) <|
  Chain.cons (stepAt_unary 1579 _ _ _ rfl (by decide)) <|
  Chain.cons (stepAt_reshape 1580 _ _ _ _ rfl (by decide)) <|
  Chain.cons (stepAt_nullary 1581 _ _ rfl) <|
  Chain.cons (stepAt_unary 1582 _ _ _ rfl (by decide)) <|
  Chain.cons (stepAt_binary 1583 _ _ _ _ rfl (by decide) (by decide)) <|
  Chain.cons (stepAt_nullary 1584 _ _ rfl) <|
  Chain.cons (stepAt_unary 1585 _ _ _ rfl (by decide)) <|
  Chain.cons (stepAt_binary 1586 _ _ _ _ rfl (by decide) (by decide)) <|
  Chain.cons (stepAt_nullary 1587 _ _ rfl) <|
  Chain.cons (stepAt_unary 1588 _ _ _ rfl (by decide)) <|
  Chain.cons (stepAt_binary 1589 _ _ _ _ rfl (by decide) (by decide)) <|
  Chain.cons (stepAt_unary 1590 _ _ _ rfl (by decide)) <|
  Chain.cons (stepAt_unary 1591 _ _ _ rfl (by decide)) <|
  Chain.cons (stepAt_binary 1592 _ _ _ _ rfl (by decide) (by decide)) <|
  Chain.cons (stepAt_binary 1593 _ _ _ _ rfl (by decide) (by decide)) <|
  Chain.cons (stepAt_unary 1594 _ _ _ rfl (by decide)) <|
  Chain.cons (stepAt_nullary 1595 _ _ rfl) <|
  Chain.cons (stepAt_nullary 1596 _ _ rfl) <|
  Chain.nil
theorem hostOps0_64_length : (hostOps0_64 : List (HloOp τ sig (Elt F))).length = 150 := rfl

set_option maxHeartbeats 4000000 in
/-- Operations 1569 … 1574 of the program, writing buffers 1597 … 1602. -/
theorem hostOps0_65_chain : Chain 1597 (hostOps0_65 : List (HloOp τ sig (Elt F))) :=
  Chain.cons (stepAt_unary 1597 _ _ _ rfl (by decide)) <|
  Chain.cons (stepAt_unary 1598 _ _ _ rfl (by decide)) <|
  Chain.cons (stepAt_binary 1599 _ _ _ _ rfl (by decide) (by decide)) <|
  Chain.cons (stepAt_unary 1600 _ _ _ rfl (by decide)) <|
  Chain.cons (stepAt_unary 1601 _ _ _ rfl (by decide)) <|
  Chain.cons (stepAt_binary 1602 _ _ _ _ rfl (by decide) (by decide)) <|
  Chain.nil
theorem hostOps0_65_length : (hostOps0_65 : List (HloOp τ sig (Elt F))).length = 6 := rfl

set_option maxHeartbeats 4000000 in
/-- Operations 1575 … 1579 of the program, writing buffers 1603 … 1607. -/
theorem hostOps0_66_chain : Chain 1603 (hostOps0_66 : List (HloOp τ sig (Elt F))) :=
  Chain.cons (stepAt_nullary 1603 _ _ rfl) <|
  Chain.cons (stepAt_unary 1604 _ _ _ rfl (by decide)) <|
  Chain.cons (stepAt_binary 1605 _ _ _ _ rfl (by decide) (by decide)) <|
  Chain.cons (stepAt_nullary 1606 _ _ rfl) <|
  Chain.cons (stepAt_nullary 1607 _ _ rfl) <|
  Chain.nil
theorem hostOps0_66_length : (hostOps0_66 : List (HloOp τ sig (Elt F))).length = 5 := rfl

set_option maxHeartbeats 4000000 in
/-- Operations 1580 … 1585 of the program, writing buffers 1608 … 1613. -/
theorem hostOps0_67_chain : Chain 1608 (hostOps0_67 : List (HloOp τ sig (Elt F))) :=
  Chain.cons (stepAt_unary 1608 _ _ _ rfl (by decide)) <|
  Chain.cons (stepAt_unary 1609 _ _ _ rfl (by decide)) <|
  Chain.cons (stepAt_binary 1610 _ _ _ _ rfl (by decide) (by decide)) <|
  Chain.cons (stepAt_unary 1611 _ _ _ rfl (by decide)) <|
  Chain.cons (stepAt_unary 1612 _ _ _ rfl (by decide)) <|
  Chain.cons (stepAt_binary 1613 _ _ _ _ rfl (by decide) (by decide)) <|
  Chain.nil
theorem hostOps0_67_length : (hostOps0_67 : List (HloOp τ sig (Elt F))).length = 6 := rfl

set_option maxHeartbeats 4000000 in
/-- Operations 1586 … 1588 of the program, writing buffers 1614 … 1616. -/
theorem hostOps0_68_chain : Chain 1614 (hostOps0_68 : List (HloOp τ sig (Elt F))) :=
  Chain.cons (stepAt_unary 1614 _ _ _ rfl (by decide)) <|
  Chain.cons (stepAt_nullary 1615 _ _ rfl) <|
  Chain.cons (stepAt_nullary 1616 _ _ rfl) <|
  Chain.nil
theorem hostOps0_68_length : (hostOps0_68 : List (HloOp τ sig (Elt F))).length = 3 := rfl

set_option maxHeartbeats 4000000 in
/-- Operations 1589 … 1594 of the program, writing buffers 1617 … 1622. -/
theorem hostOps0_69_chain : Chain 1617 (hostOps0_69 : List (HloOp τ sig (Elt F))) :=
  Chain.cons (stepAt_unary 1617 _ _ _ rfl (by decide)) <|
  Chain.cons (stepAt_unary 1618 _ _ _ rfl (by decide)) <|
  Chain.cons (stepAt_binary 1619 _ _ _ _ rfl (by decide) (by decide)) <|
  Chain.cons (stepAt_unary 1620 _ _ _ rfl (by decide)) <|
  Chain.cons (stepAt_unary 1621 _ _ _ rfl (by decide)) <|
  Chain.cons (stepAt_binary 1622 _ _ _ _ rfl (by decide) (by decide)) <|
  Chain.nil
theorem hostOps0_69_length : (hostOps0_69 : List (HloOp τ sig (Elt F))).length = 6 := rfl

set_option maxHeartbeats 4000000 in
/-- Operations 1595 … 1599 of the program, writing buffers 1623 … 1627. -/
theorem hostOps0_70_chain : Chain 1623 (hostOps0_70 : List (HloOp τ sig (Elt F))) :=
  Chain.cons (stepAt_nullary 1623 _ _ rfl) <|
  Chain.cons (stepAt_unary 1624 _ _ _ rfl (by decide)) <|
  Chain.cons (stepAt_binary 1625 _ _ _ _ rfl (by decide) (by decide)) <|
  Chain.cons (stepAt_nullary 1626 _ _ rfl) <|
  Chain.cons (stepAt_nullary 1627 _ _ rfl) <|
  Chain.nil
theorem hostOps0_70_length : (hostOps0_70 : List (HloOp τ sig (Elt F))).length = 5 := rfl

set_option maxHeartbeats 4000000 in
/-- Operations 1600 … 1605 of the program, writing buffers 1628 … 1633. -/
theorem hostOps0_71_chain : Chain 1628 (hostOps0_71 : List (HloOp τ sig (Elt F))) :=
  Chain.cons (stepAt_unary 1628 _ _ _ rfl (by decide)) <|
  Chain.cons (stepAt_unary 1629 _ _ _ rfl (by decide)) <|
  Chain.cons (stepAt_binary 1630 _ _ _ _ rfl (by decide) (by decide)) <|
  Chain.cons (stepAt_unary 1631 _ _ _ rfl (by decide)) <|
  Chain.cons (stepAt_unary 1632 _ _ _ rfl (by decide)) <|
  Chain.cons (stepAt_binary 1633 _ _ _ _ rfl (by decide) (by decide)) <|
  Chain.nil
theorem hostOps0_71_length : (hostOps0_71 : List (HloOp τ sig (Elt F))).length = 6 := rfl

set_option maxHeartbeats 4000000 in
/-- Operations 1606 … 1755 of the program, writing buffers 1634 … 1783. -/
theorem hostOps0_72_chain : Chain 1634 (hostOps0_72 : List (HloOp τ sig (Elt F))) :=
  Chain.cons (stepAt_nullary 1634 _ _ rfl) <|
  Chain.cons (stepAt_unary 1635 _ _ _ rfl (by decide)) <|
  Chain.cons (stepAt_binary 1636 _ _ _ _ rfl (by decide) (by decide)) <|
  Chain.cons (stepAt_nullary 1637 _ _ rfl) <|
  Chain.cons (stepAt_unary 1638 _ _ _ rfl (by decide)) <|
  Chain.cons (stepAt_binary 1639 _ _ _ _ rfl (by decide) (by decide)) <|
  Chain.cons (stepAt_ternary 1640 _ _ _ _ _ rfl (by decide) (by decide) (by decide)) <|
  Chain.cons (stepAt_nullary 1641 _ _ rfl) <|
  Chain.cons (stepAt_unary 1642 _ _ _ rfl (by decide)) <|
  Chain.cons (stepAt_binary 1643 _ _ _ _ rfl (by decide) (by decide)) <|
  Chain.cons (stepAt_nullary 1644 _ _ rfl) <|
  Chain.cons (stepAt_unary 1645 _ _ _ rfl (by decide)) <|
  Chain.cons (stepAt_binary 1646 _ _ _ _ rfl (by decide) (by decide)) <|
  Chain.cons (stepAt_ternary 1647 _ _ _ _ _ rfl (by decide) (by decide) (by decide)) <|
  Chain.cons (stepAt_unary 1648 _ _ _ rfl (by decide)) <|
  Chain.cons (stepAt_unary 1649 _ _ _ rfl (by decide)) <|
  Chain.cons (stepAt_binary 1650 _ _ _ _ rfl (by decide) (by decide)) <|
  Chain.cons (stepAt_binary 1651 _ _ _ _ rfl (by decide) (by decide)) <|
  Chain.cons (stepAt_nullary 1652 _ _ rfl) <|
  Chain.cons (stepAt_unary 1653 _ _ _ rfl (by decide)) <|
  Chain.cons (stepAt_binary 1654 _ _ _ _ rfl (by decide) (by decide)) <|
  Chain.cons (stepAt_nullary 1655 _ _ rfl) <|
  Chain.cons (stepAt_unary 1656 _ _ _ rfl (by decide)) <|
  Chain.cons (stepAt_binary 1657 _ _ _ _ rfl (by decide) (by decide)) <|
  Chain.cons (stepAt_ternary 1658 _ _ _ _ _ rfl (by decide) (by decide) (by decide)) <|
  Chain.cons (stepAt_nullary 1659 _ _ rfl) <|
  Chain.cons (stepAt_unary 1660 _ _ _ rfl (by decide)) <|
  Chain.cons (stepAt_binary 1661 _ _ _ _ rfl (by decide) (by decide)) <|
  Chain.cons (stepAt_nullary 1662 _ _ rfl) <|
  Chain.cons (stepAt_unary 1663 _ _ _ rfl (by decide)) <|
  Chain.cons (stepAt_binary 1664 _ _ _ _ rfl (by decide) (by decide)) <|
  Chain.cons (stepAt_ternary 1665 _ _ _ _ _ rfl (by decide) (by decide) (by decide)) <|
  Chain.cons (stepAt_unary 1666 _ _ _ rfl (by decide)) <|
  Chain.cons (stepAt_unary 1667 _ _ _ rfl (by decide)) <|
  Chain.cons (stepAt_binary 1668 _ _ _ _ rfl (by decide) (by decide)) <|
  Chain.cons (stepAt_binary 1669 _ _ _ _ rfl (by decide) (by decide)) <|
  Chain.cons (stepAt_nullary 1670 _ _ rfl) <|
  Chain.cons (stepAt_unary 1671 _ _ _ rfl (by decide)) <|
  Chain.cons (stepAt_binary 1672 _ _ _ _ rfl (by decide) (by decide)) <|
  Chain.cons (stepAt_nullary 1673 _ _ rfl) <|
  Chain.cons (stepAt_unary 1674 _ _ _ rfl (by decide)) <|
  Chain.cons (stepAt_binary 1675 _ _ _ _ rfl (by decide) (by decide)) <|
  Chain.cons (stepAt_ternary 1676 _ _ _ _ _ rfl (by decide) (by decide) (by decide)) <|
  Chain.cons (stepAt_nullary 1677 _ _ rfl) <|
  Chain.cons (stepAt_unary 1678 _ _ _ rfl (by decide)) <|
  Chain.cons (stepAt_binary 1679 _ _ _ _ rfl (by decide) (by decide)) <|
  Chain.cons (stepAt_nullary 1680 _ _ rfl) <|
  Chain.cons (stepAt_unary 1681 _ _ _ rfl (by decide)) <|
  Chain.cons (stepAt_binary 1682 _ _ _ _ rfl (by decide) (by decide)) <|
  Chain.cons (stepAt_ternary 1683 _ _ _ _ _ rfl (by decide) (by decide) (by decide)) <|
  Chain.cons (stepAt_unary 1684 _ _ _ rfl (by decide)) <|
  Chain.cons (stepAt_unary 1685 _ _ _ rfl (by decide)) <|
  Chain.cons (stepAt_binary 1686 _ _ _ _ rfl (by decide) (by decide)) <|
  Chain.cons (stepAt_binary 1687 _ _ _ _ rfl (by decide) (by decide)) <|
  Chain.cons (stepAt_nullary 1688 _ _ rfl) <|
  Chain.cons (stepAt_unary 1689 _ _ _ rfl (by decide)) <|
  Chain.cons (stepAt_binary 1690 _ _ _ _ rfl (by decide) (by decide)) <|
  Chain.cons (stepAt_nullary 1691 _ _ rfl) <|
  Chain.cons (stepAt_unary 1692 _ _ _ rfl (by decide)) <|
  Chain.cons (stepAt_binary 1693 _ _ _ _ rfl (by decide) (by decide)) <|
  Chain.cons (stepAt_ternary 1694 _ _ _ _ _ rfl (by decide) (by decide) (by decide)) <|
  Chain.cons (stepAt_nullary 1695 _ _ rfl) <|
  Chain.cons (stepAt_unary 1696 _ _ _ rfl (by decide)) <|
  Chain.cons (stepAt_binary 1697 _ _ _ _ rfl (by decide) (by decide)) <|
  Chain.cons (stepAt_nullary 1698 _ _ rfl) <|
  Chain.cons (stepAt_unary 1699 _ _ _ rfl (by decide)) <|
  Chain.cons (stepAt_binary 1700 _ _ _ _ rfl (by decide) (by decide)) <|
  Chain.cons (stepAt_ternary 1701 _ _ _ _ _ rfl (by decide) (by decide) (by decide)) <|
  Chain.cons (stepAt_unary 1702 _ _ _ rfl (by decide)) <|
  Chain.cons (stepAt_unary 1703 _ _ _ rfl (by decide)) <|
  Chain.cons (stepAt_binary 1704 _ _ _ _ rfl (by decide) (by decide)) <|
  Chain.cons (stepAt_binary 1705 _ _ _ _ rfl (by decide) (by decide)) <|
  Chain.cons (stepAt_nullary 1706 _ _ rfl) <|
  Chain.cons (stepAt_unary 1707 _ _ _ rfl (by decide)) <|
  Chain.cons (stepAt_binary 1708 _ _ _ _ rfl (by decide) (by decide)) <|
  Chain.cons (stepAt_unary 1709 _ _ _ rfl (by decide)) <|
  Chain.cons (stepAt_unary 1710 _ _ _ rfl (by decide)) <|
  Chain.cons (stepAt_binary 1711 _ _ _ _ rfl (by decide) (by decide)) <|
  Chain.cons (stepAt_nullary 1712 _ _ rfl) <|
  Chain.cons (stepAt_unary 1713 _ _ _ rfl (by decide)) <|
  Chain.cons (stepAt_binary 1714 _ _ _ _ rfl (by decide) (by decide)) <|
  Chain.cons (stepAt_unary 1715 _ _ _ rfl (by decide)) <|
  Chain.cons (stepAt_unary 1716 _ _ _ rfl (by decide)) <|
  Chain.cons (stepAt_binary 1717 _ _ _ _ rfl (by decide) (by decide)) <|
  Chain.cons (stepAt_unary 1718 _ _ _ rfl (by decide)) <|
  Chain.cons (stepAt_unary 1719 _ _ _ rfl (by decide)) <|
  Chain.cons (stepAt_binary 1720 _ _ _ _ rfl (by decide) (by decide)) <|
  Chain.cons (stepAt_nullary 1721 _ _ rfl) <|
  Chain.cons (stepAt_unary 1722 _ _ _ rfl (by decide)) <|
  Chain.cons (stepAt_binary 1723 _ _ _ _ rfl (by decide) (by decide)) <|
  Chain.cons (stepAt_unary 1724 _ _ _ rfl (by decide)) <|
  Chain.cons (stepAt_unary 1725 _ _ _ rfl (by decide)) <|
  Chain.cons (stepAt_binary 1726 _ _ _ _ rfl (by decide) (by decide)) <|
  Chain.cons (stepAt_binary 1727 _ _ _ _ rfl (by decide) (by decide)) <|
  Chain.cons (stepAt_nullary 1728 _ _ rfl) <|
  Chain.cons (stepAt_unary 1729 _ _ _ rfl (by decide)) <|
  Chain.cons (stepAt_binary 1730 _ _ _ _ rfl (by decide) (by decide)) <|
  Chain.cons (stepAt_unary 1731 _ _ _ rfl (by decide)) <|
  Chain.cons (stepAt_unary 1732 _ _ _ rfl (by decide)) <|
  Chain.cons (stepAt_binary 1733 _ _ _ _ rfl (by decide) (by decide)) <|
  Chain.cons (stepAt_unary 1734 _ _ _ rfl (by decide)) <|
  Chain.cons (stepAt_unary 1735 _ _ _ rfl (by decide)) <|
  Chain.cons (stepAt_binary 1736 _ _ _ _ rfl (by decide) (by decide)) <|
  Chain.cons (stepAt_binary 1737 _ _ _ _ rfl (by decide) (by decide)) <|
  Chain.cons (stepAt_unary 1738 _ _ _ rfl (by decide)) <|
  Chain.cons (stepAt_unary 1739 _ _ _ rfl (by decide)) <|
  Chain.cons (stepAt_binary 1740 _ _ _ _ rfl (by decide) (by decide)) <|
  Chain.cons (stepAt_unary 1741 _ _ _ rfl (by decide)) <|
  Chain.cons (stepAt_unary 1742 _ _ _ rfl (by decide)) <|
  Chain.cons (stepAt_binary 1743 _ _ _ _ rfl (by decide) (by decide)) <|
  Chain.cons (stepAt_binary 1744 _ _ _ _ rfl (by decide) (by decide)) <|
  Chain.cons (stepAt_unary 1745 _ _ _ rfl (by decide)) <|
  Chain.cons (stepAt_nullary 1746 _ _ rfl) <|
  Chain.cons (stepAt_unary 1747 _ _ _ rfl (by decide)) <|
  Chain.cons (stepAt_binary 1748 _ _ _ _ rfl (by decide) (by decide)) <|
  Chain.cons (stepAt_nullary 1749 _ _ rfl) <|
  Chain.cons (stepAt_unary 1750 _ _ _ rfl (by decide)) <|
  Chain.cons (stepAt_binary 1751 _ _ _ _ rfl (by decide) (by decide)) <|
  Chain.cons (stepAt_ternary 1752 _ _ _ _ _ rfl (by decide) (by decide) (by decide)) <|
  Chain.cons (stepAt_unary 1753 _ _ _ rfl (by decide)) <|
  Chain.cons (stepAt_binary 1754 _ _ _ _ rfl (by decide) (by decide)) <|
  Chain.cons (stepAt_unary 1755 _ _ _ rfl (by decide)) <|
  Chain.cons (stepAt_reshape 1756 _ _ _ _ rfl (by decide)) <|
  Chain.cons (stepAt_nullary 1757 _ _ rfl) <|
  Chain.cons (stepAt_unary 1758 _ _ _ rfl (by decide)) <|
  Chain.cons (stepAt_binary 1759 _ _ _ _ rfl (by decide) (by decide)) <|
  Chain.cons (stepAt_nullary 1760 _ _ rfl) <|
  Chain.cons (stepAt_unary 1761 _ _ _ rfl (by decide)) <|
  Chain.cons (stepAt_binary 1762 _ _ _ _ rfl (by decide) (by decide)) <|
  Chain.cons (stepAt_nullary 1763 _ _ rfl) <|
  Chain.cons (stepAt_unary 1764 _ _ _ rfl (by decide)) <|
  Chain.cons (stepAt_binary 1765 _ _ _ _ rfl (by decide) (by decide)) <|
  Chain.cons (stepAt_unary 1766 _ _ _ rfl (by decide)) <|
  Chain.cons (stepAt_reshape 1767 _ _ _ _ rfl (by decide)) <|
  Chain.cons (stepAt_nullary 1768 _ _ rfl) <|
  Chain.cons (stepAt_unary 1769 _ _ _ rfl (by decide)) <|
  Chain.cons (stepAt_binary 1770 _ _ _ _ rfl (by decide) (by decide)) <|
  Chain.cons (stepAt_nullary 1771 _ _ rfl) <|
  Chain.cons (stepAt_unary 1772 _ _ _ rfl (by decide)) <|
  Chain.cons (stepAt_binary 1773 _ _ _ _ rfl (by decide) (by decide)) <|
  Chain.cons (stepAt_nullary 1774 _ _ rfl) <|
  Chain.cons (stepAt_unary 1775 _ _ _ rfl (by decide)) <|
  Chain.cons (stepAt_binary 1776 _ _ _ _ rfl (by decide) (by decide)) <|
  Chain.cons (stepAt_unary 1777 _ _ _ rfl (by decide)) <|
  Chain.cons (stepAt_unary 1778 _ _ _ rfl (by decide)) <|
  Chain.cons (stepAt_binary 1779 _ _ _ _ rfl (by decide) (by decide)) <|
  Chain.cons (stepAt_binary 1780 _ _ _ _ rfl (by decide) (by decide)) <|
  Chain.cons (stepAt_unary 1781 _ _ _ rfl (by decide)) <|
  Chain.cons (stepAt_nullary 1782 _ _ rfl) <|
  Chain.cons (stepAt_nullary 1783 _ _ rfl) <|
  Chain.nil
theorem hostOps0_72_length : (hostOps0_72 : List (HloOp τ sig (Elt F))).length = 150 := rfl

set_option maxHeartbeats 4000000 in
/-- Operations 1756 … 1761 of the program, writing buffers 1784 … 1789. -/
theorem hostOps0_73_chain : Chain 1784 (hostOps0_73 : List (HloOp τ sig (Elt F))) :=
  Chain.cons (stepAt_unary 1784 _ _ _ rfl (by decide)) <|
  Chain.cons (stepAt_unary 1785 _ _ _ rfl (by decide)) <|
  Chain.cons (stepAt_binary 1786 _ _ _ _ rfl (by decide) (by decide)) <|
  Chain.cons (stepAt_unary 1787 _ _ _ rfl (by decide)) <|
  Chain.cons (stepAt_unary 1788 _ _ _ rfl (by decide)) <|
  Chain.cons (stepAt_binary 1789 _ _ _ _ rfl (by decide) (by decide)) <|
  Chain.nil
theorem hostOps0_73_length : (hostOps0_73 : List (HloOp τ sig (Elt F))).length = 6 := rfl

set_option maxHeartbeats 4000000 in
/-- Operations 1762 … 1766 of the program, writing buffers 1790 … 1794. -/
theorem hostOps0_74_chain : Chain 1790 (hostOps0_74 : List (HloOp τ sig (Elt F))) :=
  Chain.cons (stepAt_nullary 1790 _ _ rfl) <|
  Chain.cons (stepAt_unary 1791 _ _ _ rfl (by decide)) <|
  Chain.cons (stepAt_binary 1792 _ _ _ _ rfl (by decide) (by decide)) <|
  Chain.cons (stepAt_nullary 1793 _ _ rfl) <|
  Chain.cons (stepAt_nullary 1794 _ _ rfl) <|
  Chain.nil
theorem hostOps0_74_length : (hostOps0_74 : List (HloOp τ sig (Elt F))).length = 5 := rfl

set_option maxHeartbeats 4000000 in
/-- Operations 1767 … 1772 of the program, writing buffers 1795 … 1800. -/
theorem hostOps0_75_chain : Chain 1795 (hostOps0_75 : List (HloOp τ sig (Elt F))) :=
  Chain.cons (stepAt_unary 1795 _ _ _ rfl (by decide)) <|
  Chain.cons (stepAt_unary 1796 _ _ _ rfl (by decide)) <|
  Chain.cons (stepAt_binary 1797 _ _ _ _ rfl (by decide) (by decide)) <|
  Chain.cons (stepAt_unary 1798 _ _ _ rfl (by decide)) <|
  Chain.cons (stepAt_unary 1799 _ _ _ rfl (by decide)) <|
  Chain.cons (stepAt_binary 1800 _ _ _ _ rfl (by decide) (by decide)) <|
  Chain.nil
theorem hostOps0_75_length : (hostOps0_75 : List (HloOp τ sig (Elt F))).length = 6 := rfl

set_option maxHeartbeats 4000000 in
/-- Operations 1773 … 1775 of the program, writing buffers 1801 … 1803. -/
theorem hostOps0_76_chain : Chain 1801 (hostOps0_76 : List (HloOp τ sig (Elt F))) :=
  Chain.cons (stepAt_unary 1801 _ _ _ rfl (by decide)) <|
  Chain.cons (stepAt_nullary 1802 _ _ rfl) <|
  Chain.cons (stepAt_nullary 1803 _ _ rfl) <|
  Chain.nil
theorem hostOps0_76_length : (hostOps0_76 : List (HloOp τ sig (Elt F))).length = 3 := rfl

set_option maxHeartbeats 4000000 in
/-- Operations 1776 … 1781 of the program, writing buffers 1804 … 1809. -/
theorem hostOps0_77_chain : Chain 1804 (hostOps0_77 : List (HloOp τ sig (Elt F))) :=
  Chain.cons (stepAt_unary 1804 _ _ _ rfl (by decide)) <|
  Chain.cons (stepAt_unary 1805 _ _ _ rfl (by decide)) <|
  Chain.cons (stepAt_binary 1806 _ _ _ _ rfl (by decide) (by decide)) <|
  Chain.cons (stepAt_unary 1807 _ _ _ rfl (by decide)) <|
  Chain.cons (stepAt_unary 1808 _ _ _ rfl (by decide)) <|
  Chain.cons (stepAt_binary 1809 _ _ _ _ rfl (by decide) (by decide)) <|
  Chain.nil
theorem hostOps0_77_length : (hostOps0_77 : List (HloOp τ sig (Elt F))).length = 6 := rfl

set_option maxHeartbeats 4000000 in
/-- Operations 1782 … 1786 of the program, writing buffers 1810 … 1814. -/
theorem hostOps0_78_chain : Chain 1810 (hostOps0_78 : List (HloOp τ sig (Elt F))) :=
  Chain.cons (stepAt_nullary 1810 _ _ rfl) <|
  Chain.cons (stepAt_unary 1811 _ _ _ rfl (by decide)) <|
  Chain.cons (stepAt_binary 1812 _ _ _ _ rfl (by decide) (by decide)) <|
  Chain.cons (stepAt_nullary 1813 _ _ rfl) <|
  Chain.cons (stepAt_nullary 1814 _ _ rfl) <|
  Chain.nil
theorem hostOps0_78_length : (hostOps0_78 : List (HloOp τ sig (Elt F))).length = 5 := rfl

set_option maxHeartbeats 4000000 in
/-- Operations 1787 … 1792 of the program, writing buffers 1815 … 1820. -/
theorem hostOps0_79_chain : Chain 1815 (hostOps0_79 : List (HloOp τ sig (Elt F))) :=
  Chain.cons (stepAt_unary 1815 _ _ _ rfl (by decide)) <|
  Chain.cons (stepAt_unary 1816 _ _ _ rfl (by decide)) <|
  Chain.cons (stepAt_binary 1817 _ _ _ _ rfl (by decide) (by decide)) <|
  Chain.cons (stepAt_unary 1818 _ _ _ rfl (by decide)) <|
  Chain.cons (stepAt_unary 1819 _ _ _ rfl (by decide)) <|
  Chain.cons (stepAt_binary 1820 _ _ _ _ rfl (by decide) (by decide)) <|
  Chain.nil
theorem hostOps0_79_length : (hostOps0_79 : List (HloOp τ sig (Elt F))).length = 6 := rfl

end Cert.KernelIdeal.Stretch

end
-- ==== Proof.KIStretch2.lean ====
/- The stretches of @main's host operations before the kernel's region are single-assignment lines: the operations of a
   stretch write the consecutive buffers numbered from the stated bound, each reading only buffers of smaller numbers. -/
import proofs.«133805_j10187662426200_2_alg».proof.Proof.Gen.KernelIdeal.Launch
import proofs.«133805_j10187662426200_2_alg».proof.Proof.HostChain

set_option maxRecDepth 65536

noncomputable section

namespace Cert.KernelIdeal.Stretch

open Cert.KernelIdeal Cert.KernelIdeal.Gen Idealize.ShloMosaic Idealize.ShloMosaic.TcCoe Idealize.SL.Sem Idealize.ShloMosaic.StableHlo Cert.HostFold

variable {F : FTy → Type} [FloatOps F]

set_option maxHeartbeats 4000000 in
/-- Operations 1793 … 1942 of the program, writing buffers 1821 … 1970. -/
theorem hostOps0_80_chain : Chain 1821 (hostOps0_80 : List (HloOp τ sig (Elt F))) :=
  Chain.cons (stepAt_nullary 1821 _ _ rfl) <|
  Chain.cons (stepAt_unary 1822 _ _ _ rfl (by decide)) <|
  Chain.cons (stepAt_binary 1823 _ _ _ _ rfl (by decide) (by decide)) <|
  Chain.cons (stepAt_nullary 1824 _ _ rfl) <|
  Chain.cons (stepAt_unary 1825 _ _ _ rfl (by decide)) <|
  Chain.cons (stepAt_binary 1826 _ _ _ _ rfl (by decide) (by decide)) <|
  Chain.cons (stepAt_ternary 1827 _ _ _ _ _ rfl (by decide) (by decide) (by decide)) <|
  Chain.cons (stepAt_nullary 1828 _ _ rfl) <|
  Chain.cons (stepAt_unary 1829 _ _ _ rfl (by decide)) <|
  Chain.cons (stepAt_binary 1830 _ _ _ _ rfl (by decide) (by decide)) <|
  Chain.cons (stepAt_nullary 1831 _ _ rfl) <|
  Chain.cons (stepAt_unary 1832 _ _ _ rfl (by decide)) <|
  Chain.cons (stepAt_binary 1833 _ _ _ _ rfl (by decide) (by decide)) <|
  Chain.cons (stepAt_ternary 1834 _ _ _ _ _ rfl (by decide) (by decide) (by decide)) <|
  Chain.cons (stepAt_unary 1835 _ _ _ rfl (by decide)) <|
  Chain.cons (stepAt_unary 1836 _ _ _ rfl (by decide)) <|
  Chain.cons (stepAt_binary 1837 _ _ _ _ rfl (by decide) (by decide)) <|
  Chain.cons (stepAt_binary 1838 _ _ _ _ rfl (by decide) (by decide)) <|
  Chain.cons (stepAt_nullary 1839 _ _ rfl) <|
  Chain.cons (stepAt_unary 1840 _ _ _ rfl (by decide)) <|
  Chain.cons (stepAt_binary 1841 _ _ _ _ rfl (by decide) (by decide)) <|
  Chain.cons (stepAt_nullary 1842 _ _ rfl) <|
  Chain.cons (stepAt_unary 1843 _ _ _ rfl (by decide)) <|
  Chain.cons (stepAt_binary 1844 _ _ _ _ rfl (by decide) (by decide)) <|
  Chain.cons (stepAt_ternary 1845 _ _ _ _ _ rfl (by decide) (by decide) (by decide)) <|
  Chain.cons (stepAt_nullary 1846 _ _ rfl) <|
  Chain.cons (stepAt_unary 1847 _ _ _ rfl (by decide)) <|
  Chain.cons (stepAt_binary 1848 _ _ _ _ rfl (by decide) (by decide)) <|
  Chain.cons (stepAt_nullary 1849 _ _ rfl) <|
  Chain.cons (stepAt_unary 1850 _ _ _ rfl (by decide)) <|
  Chain.cons (stepAt_binary 1851 _ _ _ _ rfl (by decide) (by decide)) <|
  Chain.cons (stepAt_ternary 1852 _ _ _ _ _ rfl (by decide) (by decide) (by decide)) <|
  Chain.cons (stepAt_unary 1853 _ _ _ rfl (by decide)) <|
  Chain.cons (stepAt_unary 1854 _ _ _ rfl (by decide)) <|
  Chain.cons (stepAt_binary 1855 _ _ _ _ rfl (by decide) (by decide)) <|
  Chain.cons (stepAt_binary 1856 _ _ _ _ rfl (by decide) (by decide)) <|
  Chain.cons (stepAt_nullary 1857 _ _ rfl) <|
  Chain.cons (stepAt_unary 1858 _ _ _ rfl (by decide)) <|
  Chain.cons (stepAt_binary 1859 _ _ _ _ rfl (by decide) (by decide)) <|
  Chain.cons (stepAt_nullary 1860 _ _ rfl) <|
  Chain.cons (stepAt_unary 1861 _ _ _ rfl (by decide)) <|
  Chain.cons (stepAt_binary 1862 _ _ _ _ rfl (by decide) (by decide)) <|
  Chain.cons (stepAt_ternary 1863 _ _ _ _ _ rfl (by decide) (by decide) (by decide)) <|
  Chain.cons (stepAt_nullary 1864 _ _ rfl) <|
  Chain.cons (stepAt_unary 1865 _ _ _ rfl (by decide)) <|
  Chain.cons (stepAt_binary 1866 _ _ _ _ rfl (by decide) (by decide)) <|
  Chain.cons (stepAt_nullary 1867 _ _ rfl) <|
  Chain.cons (stepAt_unary 1868 _ _ _ rfl (by decide)) <|
  Chain.cons (stepAt_binary 1869 _ _ _ _ rfl (by decide) (by decide)) <|
  Chain.cons (stepAt_ternary 1870 _ _ _ _ _ rfl (by decide) (by decide) (by decide)) <|
  Chain.cons (stepAt_unary 1871 _ _ _ rfl (by decide)) <|
  Chain.cons (stepAt_unary 1872 _ _ _ rfl (by decide)) <|
  Chain.cons (stepAt_binary 1873 _ _ _ _ rfl (by decide) (by decide)) <|
  Chain.cons (stepAt_binary 1874 _ _ _ _ rfl (by decide) (by decide)) <|
  Chain.cons (stepAt_nullary 1875 _ _ rfl) <|
  Chain.cons (stepAt_unary 1876 _ _ _ rfl (by decide)) <|
  Chain.cons (stepAt_binary 1877 _ _ _ _ rfl (by decide) (by decide)) <|
  Chain.cons (stepAt_nullary 1878 _ _ rfl) <|
  Chain.cons (stepAt_unary 1879 _ _ _ rfl (by decide)) <|
  Chain.cons (stepAt_binary 1880 _ _ _ _ rfl (by decide) (by decide)) <|
  Chain.cons (stepAt_ternary 1881 _ _ _ _ _ rfl (by decide) (by decide) (by decide)) <|
  Chain.cons (stepAt_nullary 1882 _ _ rfl) <|
  Chain.cons (stepAt_unary 1883 _ _ _ rfl (by decide)) <|
  Chain.cons (stepAt_binary 1884 _ _ _ _ rfl (by decide) (by decide)) <|
  Chain.cons (stepAt_nullary 1885 _ _ rfl) <|
  Chain.cons (stepAt_unary 1886 _ _ _ rfl (by decide)) <|
  Chain.cons (stepAt_binary 1887 _ _ _ _ rfl (by decide) (by decide)) <|
  Chain.cons (stepAt_ternary 1888 _ _ _ _ _ rfl (by decide) (by decide) (by decide)) <|
  Chain.cons (stepAt_unary 1889 _ _ _ rfl (by decide)) <|
  Chain.cons (stepAt_unary 1890 _ _ _ rfl (by decide)) <|
  Chain.cons (stepAt_binary 1891 _ _ _ _ rfl (by decide) (by decide)) <|
  Chain.cons (stepAt_binary 1892 _ _ _ _ rfl (by decide) (by decide)) <|
  Chain.cons (stepAt_nullary 1893 _ _ rfl) <|
  Chain.cons (stepAt_unary 1894 _ _ _ rfl (by decide)) <|
  Chain.cons (stepAt_binary 1895 _ _ _ _ rfl (by decide) (by decide)) <|
  Chain.cons (stepAt_unary 1896 _ _ _ rfl (by decide)) <|
  Chain.cons (stepAt_unary 1897 _ _ _ rfl (by decide)) <|
  Chain.cons (stepAt_binary 1898 _ _ _ _ rfl (by decide) (by decide)) <|
  Chain.cons (stepAt_nullary 1899 _ _ rfl) <|
  Chain.cons (stepAt_unary 1900 _ _ _ rfl (by decide)) <|
  Chain.cons (stepAt_binary 1901 _ _ _ _ rfl (by decide) (by decide)) <|
  Chain.cons (stepAt_unary 1902 _ _ _ rfl (by decide)) <|
  Chain.cons (stepAt_unary 1903 _ _ _ rfl (by decide)) <|
  Chain.cons (stepAt_binary 1904 _ _ _ _ rfl (by decide) (by decide)) <|
  Chain.cons (stepAt_unary 1905 _ _ _ rfl (by decide)) <|
  Chain.cons (stepAt_unary 1906 _ _ _ rfl (by decide)) <|
  Chain.cons (stepAt_binary 1907 _ _ _ _ rfl (by decide) (by decide)) <|
  Chain.cons (stepAt_nullary 1908 _ _ rfl) <|
  Chain.cons (stepAt_unary 1909 _ _ _ rfl (by decide)) <|
  Chain.cons (stepAt_binary 1910 _ _ _ _ rfl (by decide) (by decide)) <|
  Chain.cons (stepAt_unary 1911 _ _ _ rfl (by decide)) <|
  Chain.cons (stepAt_unary 1912 _ _ _ rfl (by decide)) <|
  Chain.cons (stepAt_binary 1913 _ _ _ _ rfl (by decide) (by decide)) <|
  Chain.cons (stepAt_binary 1914 _ _ _ _ rfl (by decide) (by decide)) <|
  Chain.cons (stepAt_nullary 1915 _ _ rfl) <|
  Chain.cons (stepAt_unary 1916 _ _ _ rfl (by decide)) <|
  Chain.cons (stepAt_binary 1917 _ _ _ _ rfl (by decide) (by decide)) <|
  Chain.cons (stepAt_unary 1918 _ _ _ rfl (by decide)) <|
  Chain.cons (stepAt_unary 1919 _ _ _ rfl (by decide)) <|
  Chain.cons (stepAt_binary 1920 _ _ _ _ rfl (by decide) (by decide)) <|
  Chain.cons (stepAt_unary 1921 _ _ _ rfl (by decide)) <|
  Chain.cons (stepAt_unary 1922 _ _ _ rfl (by decide)) <|
  Chain.cons (stepAt_binary 1923 _ _ _ _ rfl (by decide) (by decide)) <|
  Chain.cons (stepAt_binary 1924 _ _ _ _ rfl (by decide) (by decide)) <|
  Chain.cons (stepAt_unary 1925 _ _ _ rfl (by decide)) <|
  Chain.cons (stepAt_unary 1926 _ _ _ rfl (by decide)) <|
  Chain.cons (stepAt_binary 1927 _ _ _ _ rfl (by decide) (by decide)) <|
  Chain.cons (stepAt_unary 1928 _ _ _ rfl (by decide)) <|
  Chain.cons (stepAt_unary 1929 _ _ _ rfl (by decide)) <|
  Chain.cons (stepAt_binary 1930 _ _ _ _ rfl (by decide) (by decide)) <|
  Chain.cons (stepAt_binary 1931 _ _ _ _ rfl (by decide) (by decide)) <|
  Chain.cons (stepAt_unary 1932 _ _ _ rfl (by decide)) <|
  Chain.cons (stepAt_nullary 1933 _ _ rfl) <|
  Chain.cons (stepAt_unary 1934 _ _ _ rfl (by decide)) <|
  Chain.cons (stepAt_binary 1935 _ _ _ _ rfl (by decide) (by decide)) <|
  Chain.cons (stepAt_nullary 1936 _ _ rfl) <|
  Chain.cons (stepAt_unary 1937 _ _ _ rfl (by decide)) <|
  Chain.cons (stepAt_binary 1938 _ _ _ _ rfl (by decide) (by decide)) <|
  Chain.cons (stepAt_ternary 1939 _ _ _ _ _ rfl (by decide) (by decide) (by decide)) <|
  Chain.cons (stepAt_unary 1940 _ _ _ rfl (by decide)) <|
  Chain.cons (stepAt_binary 1941 _ _ _ _ rfl (by decide) (by decide)) <|
  Chain.cons (stepAt_unary 1942 _ _ _ rfl (by decide)) <|
  Chain.cons (stepAt_reshape 1943 _ _ _ _ rfl (by decide)) <|
  Chain.cons (stepAt_nullary 1944 _ _ rfl) <|
  Chain.cons (stepAt_unary 1945 _ _ _ rfl (by decide)) <|
  Chain.cons (stepAt_binary 1946 _ _ _ _ rfl (by decide) (by decide)) <|
  Chain.cons (stepAt_nullary 1947 _ _ rfl) <|
  Chain.cons (stepAt_unary 1948 _ _ _ rfl (by decide)) <|
  Chain.cons (stepAt_binary 1949 _ _ _ _ rfl (by decide) (by decide)) <|
  Chain.cons (stepAt_nullary 1950 _ _ rfl) <|
  Chain.cons (stepAt_unary 1951 _ _ _ rfl (by decide)) <|
  Chain.cons (stepAt_binary 1952 _ _ _ _ rfl (by decide) (by decide)) <|
  Chain.cons (stepAt_unary 1953 _ _ _ rfl (by decide)) <|
  Chain.cons (stepAt_reshape 1954 _ _ _ _ rfl (by decide)) <|
  Chain.cons (stepAt_nullary 1955 _ _ rfl) <|
  Chain.cons (stepAt_unary 1956 _ _ _ rfl (by decide)) <|
  Chain.cons (stepAt_binary 1957 _ _ _ _ rfl (by decide) (by decide)) <|
  Chain.cons (stepAt_nullary 1958 _ _ rfl) <|
  Chain.cons (stepAt_unary 1959 _ _ _ rfl (by decide)) <|
  Chain.cons (stepAt_binary 1960 _ _ _ _ rfl (by decide) (by decide)) <|
  Chain.cons (stepAt_nullary 1961 _ _ rfl) <|
  Chain.cons (stepAt_unary 1962 _ _ _ rfl (by decide)) <|
  Chain.cons (stepAt_binary 1963 _ _ _ _ rfl (by decide) (by decide)) <|
  Chain.cons (stepAt_unary 1964 _ _ _ rfl (by decide)) <|
  Chain.cons (stepAt_unary 1965 _ _ _ rfl (by decide)) <|
  Chain.cons (stepAt_binary 1966 _ _ _ _ rfl (by decide) (by decide)) <|
  Chain.cons (stepAt_binary 1967 _ _ _ _ rfl (by decide) (by decide)) <|
  Chain.cons (stepAt_unary 1968 _ _ _ rfl (by decide)) <|
  Chain.cons (stepAt_nullary 1969 _ _ rfl) <|
  Chain.cons (stepAt_nullary 1970 _ _ rfl) <|
  Chain.nil
theorem hostOps0_80_length : (hostOps0_80 : List (HloOp τ sig (Elt F))).length = 150 := rfl

set_option maxHeartbeats 4000000 in
/-- Operations 1943 … 1948 of the program, writing buffers 1971 … 1976. -/
theorem hostOps0_81_chain : Chain 1971 (hostOps0_81 : List (HloOp τ sig (Elt F))) :=
  Chain.cons (stepAt_unary 1971 _ _ _ rfl (by decide)) <|
  Chain.cons (stepAt_unary 1972 _ _ _ rfl (by decide)) <|
  Chain.cons (stepAt_binary 1973 _ _ _ _ rfl (by decide) (by decide)) <|
  Chain.cons (stepAt_unary 1974 _ _ _ rfl (by decide)) <|
  Chain.cons (stepAt_unary 1975 _ _ _ rfl (by decide)) <|
  Chain.cons (stepAt_binary 1976 _ _ _ _ rfl (by decide) (by decide)) <|
  Chain.nil
theorem hostOps0_81_length : (hostOps0_81 : List (HloOp τ sig (Elt F))).length = 6 := rfl

set_option maxHeartbeats 4000000 in
/-- Operations 1949 … 1953 of the program, writing buffers 1977 … 1981. -/
theorem hostOps0_82_chain : Chain 1977 (hostOps0_82 : List (HloOp τ sig (Elt F))) :=
  Chain.cons (stepAt_nullary 1977 _ _ rfl) <|
  Chain.cons (stepAt_unary 1978 _ _ _ rfl (by decide)) <|
  Chain.cons (stepAt_binary 1979 _ _ _ _ rfl (by decide) (by decide)) <|
  Chain.cons (stepAt_nullary 1980 _ _ rfl) <|
  Chain.cons (stepAt_nullary 1981 _ _ rfl) <|
  Chain.nil
theorem hostOps0_82_length : (hostOps0_82 : List (HloOp τ sig (Elt F))).length = 5 := rfl

set_option maxHeartbeats 4000000 in
/-- Operations 1954 … 1959 of the program, writing buffers 1982 … 1987. -/
theorem hostOps0_83_chain : Chain 1982 (hostOps0_83 : List (HloOp τ sig (Elt F))) :=
  Chain.cons (stepAt_unary 1982 _ _ _ rfl (by decide)) <|
  Chain.cons (stepAt_unary 1983 _ _ _ rfl (by decide)) <|
  Chain.cons (stepAt_binary 1984 _ _ _ _ rfl (by decide) (by decide)) <|
  Chain.cons (stepAt_unary 1985 _ _ _ rfl (by decide)) <|
  Chain.cons (stepAt_unary 1986 _ _ _ rfl (by decide)) <|
  Chain.cons (stepAt_binary 1987 _ _ _ _ rfl (by decide) (by decide)) <|
  Chain.nil
theorem hostOps0_83_length : (hostOps0_83 : List (HloOp τ sig (Elt F))).length = 6 := rfl

set_option maxHeartbeats 4000000 in
/-- Operations 1960 … 1962 of the program, writing buffers 1988 … 1990. -/
theorem hostOps0_84_chain : Chain 1988 (hostOps0_84 : List (HloOp τ sig (Elt F))) :=
  Chain.cons (stepAt_unary 1988 _ _ _ rfl (by decide)) <|
  Chain.cons (stepAt_nullary 1989 _ _ rfl) <|
  Chain.cons (stepAt_nullary 1990 _ _ rfl) <|
  Chain.nil
theorem hostOps0_84_length : (hostOps0_84 : List (HloOp τ sig (Elt F))).length = 3 := rfl

set_option maxHeartbeats 4000000 in
/-- Operations 1963 … 1968 of the program, writing buffers 1991 … 1996. -/
theorem hostOps0_85_chain : Chain 1991 (hostOps0_85 : List (HloOp τ sig (Elt F))) :=
  Chain.cons (stepAt_unary 1991 _ _ _ rfl (by decide)) <|
  Chain.cons (stepAt_unary 1992 _ _ _ rfl (by decide)) <|
  Chain.cons (stepAt_binary 1993 _ _ _ _ rfl (by decide) (by decide)) <|
  Chain.cons (stepAt_unary 1994 _ _ _ rfl (by decide)) <|
  Chain.cons (stepAt_unary 1995 _ _ _ rfl (by decide)) <|
  Chain.cons (stepAt_binary 1996 _ _ _ _ rfl (by decide) (by decide)) <|
  Chain.nil
theorem hostOps0_85_length : (hostOps0_85 : List (HloOp τ sig (Elt F))).length = 6 := rfl

set_option maxHeartbeats 4000000 in
/-- Operations 1969 … 1973 of the program, writing buffers 1997 … 2001. -/
theorem hostOps0_86_chain : Chain 1997 (hostOps0_86 : List (HloOp τ sig (Elt F))) :=
  Chain.cons (stepAt_nullary 1997 _ _ rfl) <|
  Chain.cons (stepAt_unary 1998 _ _ _ rfl (by decide)) <|
  Chain.cons (stepAt_binary 1999 _ _ _ _ rfl (by decide) (by decide)) <|
  Chain.cons (stepAt_nullary 2000 _ _ rfl) <|
  Chain.cons (stepAt_nullary 2001 _ _ rfl) <|
  Chain.nil
theorem hostOps0_86_length : (hostOps0_86 : List (HloOp τ sig (Elt F))).length = 5 := rfl

set_option maxHeartbeats 4000000 in
/-- Operations 1974 … 1979 of the program, writing buffers 2002 … 2007. -/
theorem hostOps0_87_chain : Chain 2002 (hostOps0_87 : List (HloOp τ sig (Elt F))) :=
  Chain.cons (stepAt_unary 2002 _ _ _ rfl (by decide)) <|
  Chain.cons (stepAt_unary 2003 _ _ _ rfl (by decide)) <|
  Chain.cons (stepAt_binary 2004 _ _ _ _ rfl (by decide) (by decide)) <|
  Chain.cons (stepAt_unary 2005 _ _ _ rfl (by decide)) <|
  Chain.cons (stepAt_unary 2006 _ _ _ rfl (by decide)) <|
  Chain.cons (stepAt_binary 2007 _ _ _ _ rfl (by decide) (by decide)) <|
  Chain.nil
theorem hostOps0_87_length : (hostOps0_87 : List (HloOp τ sig (Elt F))).length = 6 := rfl

set_option maxHeartbeats 4000000 in
/-- Operations 1980 … 2129 of the program, writing buffers 2008 … 2157. -/
theorem hostOps0_88_chain : Chain 2008 (hostOps0_88 : List (HloOp τ sig (Elt F))) :=
  Chain.cons (stepAt_nullary 2008 _ _ rfl) <|
  Chain.cons (stepAt_unary 2009 _ _ _ rfl (by decide)) <|
  Chain.cons (stepAt_binary 2010 _ _ _ _ rfl (by decide) (by decide)) <|
  Chain.cons (stepAt_nullary 2011 _ _ rfl) <|
  Chain.cons (stepAt_unary 2012 _ _ _ rfl (by decide)) <|
  Chain.cons (stepAt_binary 2013 _ _ _ _ rfl (by decide) (by decide)) <|
  Chain.cons (stepAt_ternary 2014 _ _ _ _ _ rfl (by decide) (by decide) (by decide)) <|
  Chain.cons (stepAt_nullary 2015 _ _ rfl) <|
  Chain.cons (stepAt_unary 2016 _ _ _ rfl (by decide)) <|
  Chain.cons (stepAt_binary 2017 _ _ _ _ rfl (by decide) (by decide)) <|
  Chain.cons (stepAt_nullary 2018 _ _ rfl) <|
  Chain.cons (stepAt_unary 2019 _ _ _ rfl (by decide)) <|
  Chain.cons (stepAt_binary 2020 _ _ _ _ rfl (by decide) (by decide)) <|
  Chain.cons (stepAt_ternary 2021 _ _ _ _ _ rfl (by decide) (by decide) (by decide)) <|
  Chain.cons (stepAt_unary 2022 _ _ _ rfl (by decide)) <|
  Chain.cons (stepAt_unary 2023 _ _ _ rfl (by decide)) <|
  Chain.cons (stepAt_binary 2024 _ _ _ _ rfl (by decide) (by decide)) <|
  Chain.cons (stepAt_binary 2025 _ _ _ _ rfl (by decide) (by decide)) <|
  Chain.cons (stepAt_nullary 2026 _ _ rfl) <|
  Chain.cons (stepAt_unary 2027 _ _ _ rfl (by decide)) <|
  Chain.cons (stepAt_binary 2028 _ _ _ _ rfl (by decide) (by decide)) <|
  Chain.cons (stepAt_nullary 2029 _ _ rfl) <|
  Chain.cons (stepAt_unary 2030 _ _ _ rfl (by decide)) <|
  Chain.cons (stepAt_binary 2031 _ _ _ _ rfl (by decide) (by decide)) <|
  Chain.cons (stepAt_ternary 2032 _ _ _ _ _ rfl (by decide) (by decide) (by decide)) <|
  Chain.cons (stepAt_nullary 2033 _ _ rfl) <|
  Chain.cons (stepAt_unary 2034 _ _ _ rfl (by decide)) <|
  Chain.cons (stepAt_binary 2035 _ _ _ _ rfl (by decide) (by decide)) <|
  Chain.cons (stepAt_nullary 2036 _ _ rfl) <|
  Chain.cons (stepAt_unary 2037 _ _ _ rfl (by decide)) <|
  Chain.cons (stepAt_binary 2038 _ _ _ _ rfl (by decide) (by decide)) <|
  Chain.cons (stepAt_ternary 2039 _ _ _ _ _ rfl (by decide) (by decide) (by decide)) <|
  Chain.cons (stepAt_unary 2040 _ _ _ rfl (by decide)) <|
  Chain.cons (stepAt_unary 2041 _ _ _ rfl (by decide)) <|
  Chain.cons (stepAt_binary 2042 _ _ _ _ rfl (by decide) (by decide)) <|
  Chain.cons (stepAt_binary 2043 _ _ _ _ rfl (by decide) (by decide)) <|
  Chain.cons (stepAt_nullary 2044 _ _ rfl) <|
  Chain.cons (stepAt_unary 2045 _ _ _ rfl (by decide)) <|
  Chain.cons (stepAt_binary 2046 _ _ _ _ rfl (by decide) (by decide)) <|
  Chain.cons (stepAt_nullary 2047 _ _ rfl) <|
  Chain.cons (stepAt_unary 2048 _ _ _ rfl (by decide)) <|
  Chain.cons (stepAt_binary 2049 _ _ _ _ rfl (by decide) (by decide)) <|
  Chain.cons (stepAt_ternary 2050 _ _ _ _ _ rfl (by decide) (by decide) (by decide)) <|
  Chain.cons (stepAt_nullary 2051 _ _ rfl) <|
  Chain.cons (stepAt_unary 2052 _ _ _ rfl (by decide)) <|
  Chain.cons (stepAt_binary 2053 _ _ _ _ rfl (by decide) (by decide)) <|
  Chain.cons (stepAt_nullary 2054 _ _ rfl) <|
  Chain.cons (stepAt_unary 2055 _ _ _ rfl (by decide)) <|
  Chain.cons (stepAt_binary 2056 _ _ _ _ rfl (by decide) (by decide)) <|
  Chain.cons (stepAt_ternary 2057 _ _ _ _ _ rfl (by decide) (by decide) (by decide)) <|
  Chain.cons (stepAt_unary 2058 _ _ _ rfl (by decide)) <|
  Chain.cons (stepAt_unary 2059 _ _ _ rfl (by decide)) <|
  Chain.cons (stepAt_binary 2060 _ _ _ _ rfl (by decide) (by decide)) <|
  Chain.cons (stepAt_binary 2061 _ _ _ _ rfl (by decide) (by decide)) <|
  Chain.cons (stepAt_nullary 2062 _ _ rfl) <|
  Chain.cons (stepAt_unary 2063 _ _ _ rfl (by decide)) <|
  Chain.cons (stepAt_binary 2064 _ _ _ _ rfl (by decide) (by decide)) <|
  Chain.cons (stepAt_nullary 2065 _ _ rfl) <|
  Chain.cons (stepAt_unary 2066 _ _ _ rfl (by decide)) <|
  Chain.cons (stepAt_binary 2067 _ _ _ _ rfl (by decide) (by decide)) <|
  Chain.cons (stepAt_ternary 2068 _ _ _ _ _ rfl (by decide) (by decide) (by decide)) <|
  Chain.cons (stepAt_nullary 2069 _ _ rfl) <|
  Chain.cons (stepAt_unary 2070 _ _ _ rfl (by decide)) <|
  Chain.cons (stepAt_binary 2071 _ _ _ _ rfl (by decide) (by decide)) <|
  Chain.cons (stepAt_nullary 2072 _ _ rfl) <|
  Chain.cons (stepAt_unary 2073 _ _ _ rfl (by decide)) <|
  Chain.cons (stepAt_binary 2074 _ _ _ _ rfl (by decide) (by decide)) <|
  Chain.cons (stepAt_ternary 2075 _ _ _ _ _ rfl (by decide) (by decide) (by decide)) <|
  Chain.cons (stepAt_unary 2076 _ _ _ rfl (by decide)) <|
  Chain.cons (stepAt_unary 2077 _ _ _ rfl (by decide)) <|
  Chain.cons (stepAt_binary 2078 _ _ _ _ rfl (by decide) (by decide)) <|
  Chain.cons (stepAt_binary 2079 _ _ _ _ rfl (by decide) (by decide)) <|
  Chain.cons (stepAt_nullary 2080 _ _ rfl) <|
  Chain.cons (stepAt_unary 2081 _ _ _ rfl (by decide)) <|
  Chain.cons (stepAt_binary 2082 _ _ _ _ rfl (by decide) (by decide)) <|
  Chain.cons (stepAt_unary 2083 _ _ _ rfl (by decide)) <|
  Chain.cons (stepAt_unary 2084 _ _ _ rfl (by decide)) <|
  Chain.cons (stepAt_binary 2085 _ _ _ _ rfl (by decide) (by decide)) <|
  Chain.cons (stepAt_nullary 2086 _ _ rfl) <|
  Chain.cons (stepAt_unary 2087 _ _ _ rfl (by decide)) <|
  Chain.cons (stepAt_binary 2088 _ _ _ _ rfl (by decide) (by decide)) <|
  Chain.cons (stepAt_unary 2089 _ _ _ rfl (by decide)) <|
  Chain.cons (stepAt_unary 2090 _ _ _ rfl (by decide)) <|
  Chain.cons (stepAt_binary 2091 _ _ _ _ rfl (by decide) (by decide)) <|
  Chain.cons (stepAt_unary 2092 _ _ _ rfl (by decide)) <|
  Chain.cons (stepAt_unary 2093 _ _ _ rfl (by decide)) <|
  Chain.cons (stepAt_binary 2094 _ _ _ _ rfl (by decide) (by decide)) <|
  Chain.cons (stepAt_nullary 2095 _ _ rfl) <|
  Chain.cons (stepAt_unary 2096 _ _ _ rfl (by decide)) <|
  Chain.cons (stepAt_binary 2097 _ _ _ _ rfl (by decide) (by decide)) <|
  Chain.cons (stepAt_unary 2098 _ _ _ rfl (by decide)) <|
  Chain.cons (stepAt_unary 2099 _ _ _ rfl (by decide)) <|
  Chain.cons (stepAt_binary 2100 _ _ _ _ rfl (by decide) (by decide)) <|
  Chain.cons (stepAt_binary 2101 _ _ _ _ rfl (by decide) (by decide)) <|
  Chain.cons (stepAt_nullary 2102 _ _ rfl) <|
  Chain.cons (stepAt_unary 2103 _ _ _ rfl (by decide)) <|
  Chain.cons (stepAt_binary 2104 _ _ _ _ rfl (by decide) (by decide)) <|
  Chain.cons (stepAt_unary 2105 _ _ _ rfl (by decide)) <|
  Chain.cons (stepAt_unary 2106 _ _ _ rfl (by decide)) <|
  Chain.cons (stepAt_binary 2107 _ _ _ _ rfl (by decide) (by decide)) <|
  Chain.cons (stepAt_unary 2108 _ _ _ rfl (by decide)) <|
  Chain.cons (stepAt_unary 2109 _ _ _ rfl (by decide)) <|
  Chain.cons (stepAt_binary 2110 _ _ _ _ rfl (by decide) (by decide)) <|
  Chain.cons (stepAt_binary 2111 _ _ _ _ rfl (by decide) (by decide)) <|
  Chain.cons (stepAt_unary 2112 _ _ _ rfl (by decide)) <|
  Chain.cons (stepAt_unary 2113 _ _ _ rfl (by decide)) <|
  Chain.cons (stepAt_binary 2114 _ _ _ _ rfl (by decide) (by decide)) <|
  Chain.cons (stepAt_unary 2115 _ _ _ rfl (by decide)) <|
  Chain.cons (stepAt_unary 2116 _ _ _ rfl (by decide)) <|
  Chain.cons (stepAt_binary 2117 _ _ _ _ rfl (by decide) (by decide)) <|
  Chain.cons (stepAt_binary 2118 _ _ _ _ rfl (by decide) (by decide)) <|
  Chain.cons (stepAt_unary 2119 _ _ _ rfl (by decide)) <|
  Chain.cons (stepAt_nullary 2120 _ _ rfl) <|
  Chain.cons (stepAt_unary 2121 _ _ _ rfl (by decide)) <|
  Chain.cons (stepAt_binary 2122 _ _ _ _ rfl (by decide) (by decide)) <|
  Chain.cons (stepAt_nullary 2123 _ _ rfl) <|
  Chain.cons (stepAt_unary 2124 _ _ _ rfl (by decide)) <|
  Chain.cons (stepAt_binary 2125 _ _ _ _ rfl (by decide) (by decide)) <|
  Chain.cons (stepAt_ternary 2126 _ _ _ _ _ rfl (by decide) (by decide) (by decide)) <|
  Chain.cons (stepAt_unary 2127 _ _ _ rfl (by decide)) <|
  Chain.cons (stepAt_binary 2128 _ _ _ _ rfl (by decide) (by decide)) <|
  Chain.cons (stepAt_unary 2129 _ _ _ rfl (by decide)) <|
  Chain.cons (stepAt_reshape 2130 _ _ _ _ rfl (by decide)) <|
  Chain.cons (stepAt_nullary 2131 _ _ rfl) <|
  Chain.cons (stepAt_unary 2132 _ _ _ rfl (by decide)) <|
  Chain.cons (stepAt_binary 2133 _ _ _ _ rfl (by decide) (by decide)) <|
  Chain.cons (stepAt_nullary 2134 _ _ rfl) <|
  Chain.cons (stepAt_unary 2135 _ _ _ rfl (by decide)) <|
  Chain.cons (stepAt_binary 2136 _ _ _ _ rfl (by decide) (by decide)) <|
  Chain.cons (stepAt_nullary 2137 _ _ rfl) <|
  Chain.cons (stepAt_unary 2138 _ _ _ rfl (by decide)) <|
  Chain.cons (stepAt_binary 2139 _ _ _ _ rfl (by decide) (by decide)) <|
  Chain.cons (stepAt_unary 2140 _ _ _ rfl (by decide)) <|
  Chain.cons (stepAt_reshape 2141 _ _ _ _ rfl (by decide)) <|
  Chain.cons (stepAt_nullary 2142 _ _ rfl) <|
  Chain.cons (stepAt_unary 2143 _ _ _ rfl (by decide)) <|
  Chain.cons (stepAt_binary 2144 _ _ _ _ rfl (by decide) (by decide)) <|
  Chain.cons (stepAt_nullary 2145 _ _ rfl) <|
  Chain.cons (stepAt_unary 2146 _ _ _ rfl (by decide)) <|
  Chain.cons (stepAt_binary 2147 _ _ _ _ rfl (by decide) (by decide)) <|
  Chain.cons (stepAt_nullary 2148 _ _ rfl) <|
  Chain.cons (stepAt_unary 2149 _ _ _ rfl (by decide)) <|
  Chain.cons (stepAt_binary 2150 _ _ _ _ rfl (by decide) (by decide)) <|
  Chain.cons (stepAt_unary 2151 _ _ _ rfl (by decide)) <|
  Chain.cons (stepAt_unary 2152 _ _ _ rfl (by decide)) <|
  Chain.cons (stepAt_binary 2153 _ _ _ _ rfl (by decide) (by decide)) <|
  Chain.cons (stepAt_binary 2154 _ _ _ _ rfl (by decide) (by decide)) <|
  Chain.cons (stepAt_unary 2155 _ _ _ rfl (by decide)) <|
  Chain.cons (stepAt_nullary 2156 _ _ rfl) <|
  Chain.cons (stepAt_nullary 2157 _ _ rfl) <|
  Chain.nil
theorem hostOps0_88_length : (hostOps0_88 : List (HloOp τ sig (Elt F))).length = 150 := rfl

set_option maxHeartbeats 4000000 in
/-- Operations 2130 … 2135 of the program, writing buffers 2158 … 2163. -/
theorem hostOps0_89_chain : Chain 2158 (hostOps0_89 : List (HloOp τ sig (Elt F))) :=
  Chain.cons (stepAt_unary 2158 _ _ _ rfl (by decide)) <|
  Chain.cons (stepAt_unary 2159 _ _ _ rfl (by decide)) <|
  Chain.cons (stepAt_binary 2160 _ _ _ _ rfl (by decide) (by decide)) <|
  Chain.cons (stepAt_unary 2161 _ _ _ rfl (by decide)) <|
  Chain.cons (stepAt_unary 2162 _ _ _ rfl (by decide)) <|
  Chain.cons (stepAt_binary 2163 _ _ _ _ rfl (by decide) (by decide)) <|
  Chain.nil
theorem hostOps0_89_length : (hostOps0_89 : List (HloOp τ sig (Elt F))).length = 6 := rfl

set_option maxHeartbeats 4000000 in
/-- Operations 2136 … 2140 of the program, writing buffers 2164 … 2168. -/
theorem hostOps0_90_chain : Chain 2164 (hostOps0_90 : List (HloOp τ sig (Elt F))) :=
  Chain.cons (stepAt_nullary 2164 _ _ rfl) <|
  Chain.cons (stepAt_unary 2165 _ _ _ rfl (by decide)) <|
  Chain.cons (stepAt_binary 2166 _ _ _ _ rfl (by decide) (by decide)) <|
  Chain.cons (stepAt_nullary 2167 _ _ rfl) <|
  Chain.cons (stepAt_nullary 2168 _ _ rfl) <|
  Chain.nil
theorem hostOps0_90_length : (hostOps0_90 : List (HloOp τ sig (Elt F))).length = 5 := rfl

set_option maxHeartbeats 4000000 in
/-- Operations 2141 … 2146 of the program, writing buffers 2169 … 2174. -/
theorem hostOps0_91_chain : Chain 2169 (hostOps0_91 : List (HloOp τ sig (Elt F))) :=
  Chain.cons (stepAt_unary 2169 _ _ _ rfl (by decide)) <|
  Chain.cons (stepAt_unary 2170 _ _ _ rfl (by decide)) <|
  Chain.cons (stepAt_binary 2171 _ _ _ _ rfl (by decide) (by decide)) <|
  Chain.cons (stepAt_unary 2172 _ _ _ rfl (by decide)) <|
  Chain.cons (stepAt_unary 2173 _ _ _ rfl (by decide)) <|
  Chain.cons (stepAt_binary 2174 _ _ _ _ rfl (by decide) (by decide)) <|
  Chain.nil
theorem hostOps0_91_length : (hostOps0_91 : List (HloOp τ sig (Elt F))).length = 6 := rfl

set_option maxHeartbeats 4000000 in
/-- Operations 2147 … 2149 of the program, writing buffers 2175 … 2177. -/
theorem hostOps0_92_chain : Chain 2175 (hostOps0_92 : List (HloOp τ sig (Elt F))) :=
  Chain.cons (stepAt_unary 2175 _ _ _ rfl (by decide)) <|
  Chain.cons (stepAt_nullary 2176 _ _ rfl) <|
  Chain.cons (stepAt_nullary 2177 _ _ rfl) <|
  Chain.nil
theorem hostOps0_92_length : (hostOps0_92 : List (HloOp τ sig (Elt F))).length = 3 := rfl

set_option maxHeartbeats 4000000 in
/-- Operations 2150 … 2155 of the program, writing buffers 2178 … 2183. -/
theorem hostOps0_93_chain : Chain 2178 (hostOps0_93 : List (HloOp τ sig (Elt F))) :=
  Chain.cons (stepAt_unary 2178 _ _ _ rfl (by decide)) <|
  Chain.cons (stepAt_unary 2179 _ _ _ rfl (by decide)) <|
  Chain.cons (stepAt_binary 2180 _ _ _ _ rfl (by decide) (by decide)) <|
  Chain.cons (stepAt_unary 2181 _ _ _ rfl (by decide)) <|
  Chain.cons (stepAt_unary 2182 _ _ _ rfl (by decide)) <|
  Chain.cons (stepAt_binary 2183 _ _ _ _ rfl (by decide) (by decide)) <|
  Chain.nil
theorem hostOps0_93_length : (hostOps0_93 : List (HloOp τ sig (Elt F))).length = 6 := rfl

set_option maxHeartbeats 4000000 in
/-- Operations 2156 … 2160 of the program, writing buffers 2184 … 2188. -/
theorem hostOps0_94_chain : Chain 2184 (hostOps0_94 : List (HloOp τ sig (Elt F))) :=
  Chain.cons (stepAt_nullary 2184 _ _ rfl) <|
  Chain.cons (stepAt_unary 2185 _ _ _ rfl (by decide)) <|
  Chain.cons (stepAt_binary 2186 _ _ _ _ rfl (by decide) (by decide)) <|
  Chain.cons (stepAt_nullary 2187 _ _ rfl) <|
  Chain.cons (stepAt_nullary 2188 _ _ rfl) <|
  Chain.nil
theorem hostOps0_94_length : (hostOps0_94 : List (HloOp τ sig (Elt F))).length = 5 := rfl

set_option maxHeartbeats 4000000 in
/-- Operations 2161 … 2166 of the program, writing buffers 2189 … 2194. -/
theorem hostOps0_95_chain : Chain 2189 (hostOps0_95 : List (HloOp τ sig (Elt F))) :=
  Chain.cons (stepAt_unary 2189 _ _ _ rfl (by decide)) <|
  Chain.cons (stepAt_unary 2190 _ _ _ rfl (by decide)) <|
  Chain.cons (stepAt_binary 2191 _ _ _ _ rfl (by decide) (by decide)) <|
  Chain.cons (stepAt_unary 2192 _ _ _ rfl (by decide)) <|
  Chain.cons (stepAt_unary 2193 _ _ _ rfl (by decide)) <|
  Chain.cons (stepAt_binary 2194 _ _ _ _ rfl (by decide) (by decide)) <|
  Chain.nil
theorem hostOps0_95_length : (hostOps0_95 : List (HloOp τ sig (Elt F))).length = 6 := rfl

set_option maxHeartbeats 4000000 in
/-- Operations 2167 … 2316 of the program, writing buffers 2195 … 2344. -/
theorem hostOps0_96_chain : Chain 2195 (hostOps0_96 : List (HloOp τ sig (Elt F))) :=
  Chain.cons (stepAt_nullary 2195 _ _ rfl) <|
  Chain.cons (stepAt_unary 2196 _ _ _ rfl (by decide)) <|
  Chain.cons (stepAt_binary 2197 _ _ _ _ rfl (by decide) (by decide)) <|
  Chain.cons (stepAt_nullary 2198 _ _ rfl) <|
  Chain.cons (stepAt_unary 2199 _ _ _ rfl (by decide)) <|
  Chain.cons (stepAt_binary 2200 _ _ _ _ rfl (by decide) (by decide)) <|
  Chain.cons (stepAt_ternary 2201 _ _ _ _ _ rfl (by decide) (by decide) (by decide)) <|
  Chain.cons (stepAt_nullary 2202 _ _ rfl) <|
  Chain.cons (stepAt_unary 2203 _ _ _ rfl (by decide)) <|
  Chain.cons (stepAt_binary 2204 _ _ _ _ rfl (by decide) (by decide)) <|
  Chain.cons (stepAt_nullary 2205 _ _ rfl) <|
  Chain.cons (stepAt_unary 2206 _ _ _ rfl (by decide)) <|
  Chain.cons (stepAt_binary 2207 _ _ _ _ rfl (by decide) (by decide)) <|
  Chain.cons (stepAt_ternary 2208 _ _ _ _ _ rfl (by decide) (by decide) (by decide)) <|
  Chain.cons (stepAt_unary 2209 _ _ _ rfl (by decide)) <|
  Chain.cons (stepAt_unary 2210 _ _ _ rfl (by decide)) <|
  Chain.cons (stepAt_binary 2211 _ _ _ _ rfl (by decide) (by decide)) <|
  Chain.cons (stepAt_binary 2212 _ _ _ _ rfl (by decide) (by decide)) <|
  Chain.cons (stepAt_nullary 2213 _ _ rfl) <|
  Chain.cons (stepAt_unary 2214 _ _ _ rfl (by decide)) <|
  Chain.cons (stepAt_binary 2215 _ _ _ _ rfl (by decide) (by decide)) <|
  Chain.cons (stepAt_nullary 2216 _ _ rfl) <|
  Chain.cons (stepAt_unary 2217 _ _ _ rfl (by decide)) <|
  Chain.cons (stepAt_binary 2218 _ _ _ _ rfl (by decide) (by decide)) <|
  Chain.cons (stepAt_ternary 2219 _ _ _ _ _ rfl (by decide) (by decide) (by decide)) <|
  Chain.cons (stepAt_nullary 2220 _ _ rfl) <|
  Chain.cons (stepAt_unary 2221 _ _ _ rfl (by decide)) <|
  Chain.cons (stepAt_binary 2222 _ _ _ _ rfl (by decide) (by decide)) <|
  Chain.cons (stepAt_nullary 2223 _ _ rfl) <|
  Chain.cons (stepAt_unary 2224 _ _ _ rfl (by decide)) <|
  Chain.cons (stepAt_binary 2225 _ _ _ _ rfl (by decide) (by decide)) <|
  Chain.cons (stepAt_ternary 2226 _ _ _ _ _ rfl (by decide) (by decide) (by decide)) <|
  Chain.cons (stepAt_unary 2227 _ _ _ rfl (by decide)) <|
  Chain.cons (stepAt_unary 2228 _ _ _ rfl (by decide)) <|
  Chain.cons (stepAt_binary 2229 _ _ _ _ rfl (by decide) (by decide)) <|
  Chain.cons (stepAt_binary 2230 _ _ _ _ rfl (by decide) (by decide)) <|
  Chain.cons (stepAt_nullary 2231 _ _ rfl) <|
  Chain.cons (stepAt_unary 2232 _ _ _ rfl (by decide)) <|
  Chain.cons (stepAt_binary 2233 _ _ _ _ rfl (by decide) (by decide)) <|
  Chain.cons (stepAt_nullary 2234 _ _ rfl) <|
  Chain.cons (stepAt_unary 2235 _ _ _ rfl (by decide)) <|
  Chain.cons (stepAt_binary 2236 _ _ _ _ rfl (by decide) (by decide)) <|
  Chain.cons (stepAt_ternary 2237 _ _ _ _ _ rfl (by decide) (by decide) (by decide)) <|
  Chain.cons (stepAt_nullary 2238 _ _ rfl) <|
  Chain.cons (stepAt_unary 2239 _ _ _ rfl (by decide)) <|
  Chain.cons (stepAt_binary 2240 _ _ _ _ rfl (by decide) (by decide)) <|
  Chain.cons (stepAt_nullary 2241 _ _ rfl) <|
  Chain.cons (stepAt_unary 2242 _ _ _ rfl (by decide)) <|
  Chain.cons (stepAt_binary 2243 _ _ _ _ rfl (by decide) (by decide)) <|
  Chain.cons (stepAt_ternary 2244 _ _ _ _ _ rfl (by decide) (by decide) (by decide)) <|
  Chain.cons (stepAt_unary 2245 _ _ _ rfl (by decide)) <|
  Chain.cons (stepAt_unary 2246 _ _ _ rfl (by decide)) <|
  Chain.cons (stepAt_binary 2247 _ _ _ _ rfl (by decide) (by decide)) <|
  Chain.cons (stepAt_binary 2248 _ _ _ _ rfl (by decide) (by decide)) <|
  Chain.cons (stepAt_nullary 2249 _ _ rfl) <|
  Chain.cons (stepAt_unary 2250 _ _ _ rfl (by decide)) <|
  Chain.cons (stepAt_binary 2251 _ _ _ _ rfl (by decide) (by decide)) <|
  Chain.cons (stepAt_nullary 2252 _ _ rfl) <|
  Chain.cons (stepAt_unary 2253 _ _ _ rfl (by decide)) <|
  Chain.cons (stepAt_binary 2254 _ _ _ _ rfl (by decide) (by decide)) <|
  Chain.cons (stepAt_ternary 2255 _ _ _ _ _ rfl (by decide) (by decide) (by decide)) <|
  Chain.cons (stepAt_nullary 2256 _ _ rfl) <|
  Chain.cons (stepAt_unary 2257 _ _ _ rfl (by decide)) <|
  Chain.cons (stepAt_binary 2258 _ _ _ _ rfl (by decide) (by decide)) <|
  Chain.cons (stepAt_nullary 2259 _ _ rfl) <|
  Chain.cons (stepAt_unary 2260 _ _ _ rfl (by decide)) <|
  Chain.cons (stepAt_binary 2261 _ _ _ _ rfl (by decide) (by decide)) <|
  Chain.cons (stepAt_ternary 2262 _ _ _ _ _ rfl (by decide) (by decide) (by decide)) <|
  Chain.cons (stepAt_unary 2263 _ _ _ rfl (by decide)) <|
  Chain.cons (stepAt_unary 2264 _ _ _ rfl (by decide)) <|
  Chain.cons (stepAt_binary 2265 _ _ _ _ rfl (by decide) (by decide)) <|
  Chain.cons (stepAt_binary 2266 _ _ _ _ rfl (by decide) (by decide)) <|
  Chain.cons (stepAt_nullary 2267 _ _ rfl) <|
  Chain.cons (stepAt_unary 2268 _ _ _ rfl (by decide)) <|
  Chain.cons (stepAt_binary 2269 _ _ _ _ rfl (by decide) (by decide)) <|
  Chain.cons (stepAt_unary 2270 _ _ _ rfl (by decide)) <|
  Chain.cons (stepAt_unary 2271 _ _ _ rfl (by decide)) <|
  Chain.cons (stepAt_binary 2272 _ _ _ _ rfl (by decide) (by decide)) <|
  Chain.cons (stepAt_nullary 2273 _ _ rfl) <|
  Chain.cons (stepAt_unary 2274 _ _ _ rfl (by decide)) <|
  Chain.cons (stepAt_binary 2275 _ _ _ _ rfl (by decide) (by decide)) <|
  Chain.cons (stepAt_unary 2276 _ _ _ rfl (by decide)) <|
  Chain.cons (stepAt_unary 2277 _ _ _ rfl (by decide)) <|
  Chain.cons (stepAt_binary 2278 _ _ _ _ rfl (by decide) (by decide)) <|
  Chain.cons (stepAt_unary 2279 _ _ _ rfl (by decide)) <|
  Chain.cons (stepAt_unary 2280 _ _ _ rfl (by decide)) <|
  Chain.cons (stepAt_binary 2281 _ _ _ _ rfl (by decide) (by decide)) <|
  Chain.cons (stepAt_nullary 2282 _ _ rfl) <|
  Chain.cons (stepAt_unary 2283 _ _ _ rfl (by decide)) <|
  Chain.cons (stepAt_binary 2284 _ _ _ _ rfl (by decide) (by decide)) <|
  Chain.cons (stepAt_unary 2285 _ _ _ rfl (by decide)) <|
  Chain.cons (stepAt_unary 2286 _ _ _ rfl (by decide)) <|
  Chain.cons (stepAt_binary 2287 _ _ _ _ rfl (by decide) (by decide)) <|
  Chain.cons (stepAt_binary 2288 _ _ _ _ rfl (by decide) (by decide)) <|
  Chain.cons (stepAt_nullary 2289 _ _ rfl) <|
  Chain.cons (stepAt_unary 2290 _ _ _ rfl (by decide)) <|
  Chain.cons (stepAt_binary 2291 _ _ _ _ rfl (by decide) (by decide)) <|
  Chain.cons (stepAt_unary 2292 _ _ _ rfl (by decide)) <|
  Chain.cons (stepAt_unary 2293 _ _ _ rfl (by decide)) <|
  Chain.cons (stepAt_binary 2294 _ _ _ _ rfl (by decide) (by decide)) <|
  Chain.cons (stepAt_unary 2295 _ _ _ rfl (by decide)) <|
  Chain.cons (stepAt_unary 2296 _ _ _ rfl (by decide)) <|
  Chain.cons (stepAt_binary 2297 _ _ _ _ rfl (by decide) (by decide)) <|
  Chain.cons (stepAt_binary 2298 _ _ _ _ rfl (by decide) (by decide)) <|
  Chain.cons (stepAt_unary 2299 _ _ _ rfl (by decide)) <|
  Chain.cons (stepAt_unary 2300 _ _ _ rfl (by decide)) <|
  Chain.cons (stepAt_binary 2301 _ _ _ _ rfl (by decide) (by decide)) <|
  Chain.cons (stepAt_unary 2302 _ _ _ rfl (by decide)) <|
  Chain.cons (stepAt_unary 2303 _ _ _ rfl (by decide)) <|
  Chain.cons (stepAt_binary 2304 _ _ _ _ rfl (by decide) (by decide)) <|
  Chain.cons (stepAt_binary 2305 _ _ _ _ rfl (by decide) (by decide)) <|
  Chain.cons (stepAt_unary 2306 _ _ _ rfl (by decide)) <|
  Chain.cons (stepAt_nullary 2307 _ _ rfl) <|
  Chain.cons (stepAt_unary 2308 _ _ _ rfl (by decide)) <|
  Chain.cons (stepAt_binary 2309 _ _ _ _ rfl (by decide) (by decide)) <|
  Chain.cons (stepAt_nullary 2310 _ _ rfl) <|
  Chain.cons (stepAt_unary 2311 _ _ _ rfl (by decide)) <|
  Chain.cons (stepAt_binary 2312 _ _ _ _ rfl (by decide) (by decide)) <|
  Chain.cons (stepAt_ternary 2313 _ _ _ _ _ rfl (by decide) (by decide) (by decide)) <|
  Chain.cons (stepAt_unary 2314 _ _ _ rfl (by decide)) <|
  Chain.cons (stepAt_binary 2315 _ _ _ _ rfl (by decide) (by decide)) <|
  Chain.cons (stepAt_unary 2316 _ _ _ rfl (by decide)) <|
  Chain.cons (stepAt_reshape 2317 _ _ _ _ rfl (by decide)) <|
  Chain.cons (stepAt_nullary 2318 _ _ rfl) <|
  Chain.cons (stepAt_unary 2319 _ _ _ rfl (by decide)) <|
  Chain.cons (stepAt_binary 2320 _ _ _ _ rfl (by decide) (by decide)) <|
  Chain.cons (stepAt_nullary 2321 _ _ rfl) <|
  Chain.cons (stepAt_unary 2322 _ _ _ rfl (by decide)) <|
  Chain.cons (stepAt_binary 2323 _ _ _ _ rfl (by decide) (by decide)) <|
  Chain.cons (stepAt_nullary 2324 _ _ rfl) <|
  Chain.cons (stepAt_unary 2325 _ _ _ rfl (by decide)) <|
  Chain.cons (stepAt_binary 2326 _ _ _ _ rfl (by decide) (by decide)) <|
  Chain.cons (stepAt_unary 2327 _ _ _ rfl (by decide)) <|
  Chain.cons (stepAt_reshape 2328 _ _ _ _ rfl (by decide)) <|
  Chain.cons (stepAt_nullary 2329 _ _ rfl) <|
  Chain.cons (stepAt_unary 2330 _ _ _ rfl (by decide)) <|
  Chain.cons (stepAt_binary 2331 _ _ _ _ rfl (by decide) (by decide)) <|
  Chain.cons (stepAt_nullary 2332 _ _ rfl) <|
  Chain.cons (stepAt_unary 2333 _ _ _ rfl (by decide)) <|
  Chain.cons (stepAt_binary 2334 _ _ _ _ rfl (by decide) (by decide)) <|
  Chain.cons (stepAt_nullary 2335 _ _ rfl) <|
  Chain.cons (stepAt_unary 2336 _ _ _ rfl (by decide)) <|
  Chain.cons (stepAt_binary 2337 _ _ _ _ rfl (by decide) (by decide)) <|
  Chain.cons (stepAt_unary 2338 _ _ _ rfl (by decide)) <|
  Chain.cons (stepAt_unary 2339 _ _ _ rfl (by decide)) <|
  Chain.cons (stepAt_binary 2340 _ _ _ _ rfl (by decide) (by decide)) <|
  Chain.cons (stepAt_binary 2341 _ _ _ _ rfl (by decide) (by decide)) <|
  Chain.cons (stepAt_unary 2342 _ _ _ rfl (by decide)) <|
  Chain.cons (stepAt_nullary 2343 _ _ rfl) <|
  Chain.cons (stepAt_nullary 2344 _ _ rfl) <|
  Chain.nil
theorem hostOps0_96_length : (hostOps0_96 : List (HloOp τ sig (Elt F))).length = 150 := rfl

set_option maxHeartbeats 4000000 in
/-- Operations 2317 … 2322 of the program, writing buffers 2345 … 2350. -/
theorem hostOps0_97_chain : Chain 2345 (hostOps0_97 : List (HloOp τ sig (Elt F))) :=
  Chain.cons (stepAt_unary 2345 _ _ _ rfl (by decide)) <|
  Chain.cons (stepAt_unary 2346 _ _ _ rfl (by decide)) <|
  Chain.cons (stepAt_binary 2347 _ _ _ _ rfl (by decide) (by decide)) <|
  Chain.cons (stepAt_unary 2348 _ _ _ rfl (by decide)) <|
  Chain.cons (stepAt_unary 2349 _ _ _ rfl (by decide)) <|
  Chain.cons (stepAt_binary 2350 _ _ _ _ rfl (by decide) (by decide)) <|
  Chain.nil
theorem hostOps0_97_length : (hostOps0_97 : List (HloOp τ sig (Elt F))).length = 6 := rfl

set_option maxHeartbeats 4000000 in
/-- Operations 2323 … 2327 of the program, writing buffers 2351 … 2355. -/
theorem hostOps0_98_chain : Chain 2351 (hostOps0_98 : List (HloOp τ sig (Elt F))) :=
  Chain.cons (stepAt_nullary 2351 _ _ rfl) <|
  Chain.cons (stepAt_unary 2352 _ _ _ rfl (by decide)) <|
  Chain.cons (stepAt_binary 2353 _ _ _ _ rfl (by decide) (by decide)) <|
  Chain.cons (stepAt_nullary 2354 _ _ rfl) <|
  Chain.cons (stepAt_nullary 2355 _ _ rfl) <|
  Chain.nil
theorem hostOps0_98_length : (hostOps0_98 : List (HloOp τ sig (Elt F))).length = 5 := rfl

set_option maxHeartbeats 4000000 in
/-- Operations 2328 … 2333 of the program, writing buffers 2356 … 2361. -/
theorem hostOps0_99_chain : Chain 2356 (hostOps0_99 : List (HloOp τ sig (Elt F))) :=
  Chain.cons (stepAt_unary 2356 _ _ _ rfl (by decide)) <|
  Chain.cons (stepAt_unary 2357 _ _ _ rfl (by decide)) <|
  Chain.cons (stepAt_binary 2358 _ _ _ _ rfl (by decide) (by decide)) <|
  Chain.cons (stepAt_unary 2359 _ _ _ rfl (by decide)) <|
  Chain.cons (stepAt_unary 2360 _ _ _ rfl (by decide)) <|
  Chain.cons (stepAt_binary 2361 _ _ _ _ rfl (by decide) (by decide)) <|
  Chain.nil
theorem hostOps0_99_length : (hostOps0_99 : List (HloOp τ sig (Elt F))).length = 6 := rfl

set_option maxHeartbeats 4000000 in
/-- Operations 2334 … 2336 of the program, writing buffers 2362 … 2364. -/
theorem hostOps0_100_chain : Chain 2362 (hostOps0_100 : List (HloOp τ sig (Elt F))) :=
  Chain.cons (stepAt_unary 2362 _ _ _ rfl (by decide)) <|
  Chain.cons (stepAt_nullary 2363 _ _ rfl) <|
  Chain.cons (stepAt_nullary 2364 _ _ rfl) <|
  Chain.nil
theorem hostOps0_100_length : (hostOps0_100 : List (HloOp τ sig (Elt F))).length = 3 := rfl

set_option maxHeartbeats 4000000 in
/-- Operations 2337 … 2342 of the program, writing buffers 2365 … 2370. -/
theorem hostOps0_101_chain : Chain 2365 (hostOps0_101 : List (HloOp τ sig (Elt F))) :=
  Chain.cons (stepAt_unary 2365 _ _ _ rfl (by decide)) <|
  Chain.cons (stepAt_unary 2366 _ _ _ rfl (by decide)) <|
  Chain.cons (stepAt_binary 2367 _ _ _ _ rfl (by decide) (by decide)) <|
  Chain.cons (stepAt_unary 2368 _ _ _ rfl (by decide)) <|
  Chain.cons (stepAt_unary 2369 _ _ _ rfl (by decide)) <|
  Chain.cons (stepAt_binary 2370 _ _ _ _ rfl (by decide) (by decide)) <|
  Chain.nil
theorem hostOps0_101_length : (hostOps0_101 : List (HloOp τ sig (Elt F))).length = 6 := rfl

set_option maxHeartbeats 4000000 in
/-- Operations 2343 … 2347 of the program, writing buffers 2371 … 2375. -/
theorem hostOps0_102_chain : Chain 2371 (hostOps0_102 : List (HloOp τ sig (Elt F))) :=
  Chain.cons (stepAt_nullary 2371 _ _ rfl) <|
  Chain.cons (stepAt_unary 2372 _ _ _ rfl (by decide)) <|
  Chain.cons (stepAt_binary 2373 _ _ _ _ rfl (by decide) (by decide)) <|
  Chain.cons (stepAt_nullary 2374 _ _ rfl) <|
  Chain.cons (stepAt_nullary 2375 _ _ rfl) <|
  Chain.nil
theorem hostOps0_102_length : (hostOps0_102 : List (HloOp τ sig (Elt F))).length = 5 := rfl

set_option maxHeartbeats 4000000 in
/-- Operations 2348 … 2353 of the program, writing buffers 2376 … 2381. -/
theorem hostOps0_103_chain : Chain 2376 (hostOps0_103 : List (HloOp τ sig (Elt F))) :=
  Chain.cons (stepAt_unary 2376 _ _ _ rfl (by decide)) <|
  Chain.cons (stepAt_unary 2377 _ _ _ rfl (by decide)) <|
  Chain.cons (stepAt_binary 2378 _ _ _ _ rfl (by decide) (by decide)) <|
  Chain.cons (stepAt_unary 2379 _ _ _ rfl (by decide)) <|
  Chain.cons (stepAt_unary 2380 _ _ _ rfl (by decide)) <|
  Chain.cons (stepAt_binary 2381 _ _ _ _ rfl (by decide) (by decide)) <|
  Chain.nil
theorem hostOps0_103_length : (hostOps0_103 : List (HloOp τ sig (Elt F))).length = 6 := rfl

set_option maxHeartbeats 4000000 in
/-- Operations 2354 … 2503 of the program, writing buffers 2382 … 2531. -/
theorem hostOps0_104_chain : Chain 2382 (hostOps0_104 : List (HloOp τ sig (Elt F))) :=
  Chain.cons (stepAt_nullary 2382 _ _ rfl) <|
  Chain.cons (stepAt_unary 2383 _ _ _ rfl (by decide)) <|
  Chain.cons (stepAt_binary 2384 _ _ _ _ rfl (by decide) (by decide)) <|
  Chain.cons (stepAt_nullary 2385 _ _ rfl) <|
  Chain.cons (stepAt_unary 2386 _ _ _ rfl (by decide)) <|
  Chain.cons (stepAt_binary 2387 _ _ _ _ rfl (by decide) (by decide)) <|
  Chain.cons (stepAt_ternary 2388 _ _ _ _ _ rfl (by decide) (by decide) (by decide)) <|
  Chain.cons (stepAt_nullary 2389 _ _ rfl) <|
  Chain.cons (stepAt_unary 2390 _ _ _ rfl (by decide)) <|
  Chain.cons (stepAt_binary 2391 _ _ _ _ rfl (by decide) (by decide)) <|
  Chain.cons (stepAt_nullary 2392 _ _ rfl) <|
  Chain.cons (stepAt_unary 2393 _ _ _ rfl (by decide)) <|
  Chain.cons (stepAt_binary 2394 _ _ _ _ rfl (by decide) (by decide)) <|
  Chain.cons (stepAt_ternary 2395 _ _ _ _ _ rfl (by decide) (by decide) (by decide)) <|
  Chain.cons (stepAt_unary 2396 _ _ _ rfl (by decide)) <|
  Chain.cons (stepAt_unary 2397 _ _ _ rfl (by decide)) <|
  Chain.cons (stepAt_binary 2398 _ _ _ _ rfl (by decide) (by decide)) <|
  Chain.cons (stepAt_binary 2399 _ _ _ _ rfl (by decide) (by decide)) <|
  Chain.cons (stepAt_nullary 2400 _ _ rfl) <|
  Chain.cons (stepAt_unary 2401 _ _ _ rfl (by decide)) <|
  Chain.cons (stepAt_binary 2402 _ _ _ _ rfl (by decide) (by decide)) <|
  Chain.cons (stepAt_nullary 2403 _ _ rfl) <|
  Chain.cons (stepAt_unary 2404 _ _ _ rfl (by decide)) <|
  Chain.cons (stepAt_binary 2405 _ _ _ _ rfl (by decide) (by decide)) <|
  Chain.cons (stepAt_ternary 2406 _ _ _ _ _ rfl (by decide) (by decide) (by decide)) <|
  Chain.cons (stepAt_nullary 2407 _ _ rfl) <|
  Chain.cons (stepAt_unary 2408 _ _ _ rfl (by decide)) <|
  Chain.cons (stepAt_binary 2409 _ _ _ _ rfl (by decide) (by decide)) <|
  Chain.cons (stepAt_nullary 2410 _ _ rfl) <|
  Chain.cons (stepAt_unary 2411 _ _ _ rfl (by decide)) <|
  Chain.cons (stepAt_binary 2412 _ _ _ _ rfl (by decide) (by decide)) <|
  Chain.cons (stepAt_ternary 2413 _ _ _ _ _ rfl (by decide) (by decide) (by decide)) <|
  Chain.cons (stepAt_unary 2414 _ _ _ rfl (by decide)) <|
  Chain.cons (stepAt_unary 2415 _ _ _ rfl (by decide)) <|
  Chain.cons (stepAt_binary 2416 _ _ _ _ rfl (by decide) (by decide)) <|
  Chain.cons (stepAt_binary 2417 _ _ _ _ rfl (by decide) (by decide)) <|
  Chain.cons (stepAt_nullary 2418 _ _ rfl) <|
  Chain.cons (stepAt_unary 2419 _ _ _ rfl (by decide)) <|
  Chain.cons (stepAt_binary 2420 _ _ _ _ rfl (by decide) (by decide)) <|
  Chain.cons (stepAt_nullary 2421 _ _ rfl) <|
  Chain.cons (stepAt_unary 2422 _ _ _ rfl (by decide)) <|
  Chain.cons (stepAt_binary 2423 _ _ _ _ rfl (by decide) (by decide)) <|
  Chain.cons (stepAt_ternary 2424 _ _ _ _ _ rfl (by decide) (by decide) (by decide)) <|
  Chain.cons (stepAt_nullary 2425 _ _ rfl) <|
  Chain.cons (stepAt_unary 2426 _ _ _ rfl (by decide)) <|
  Chain.cons (stepAt_binary 2427 _ _ _ _ rfl (by decide) (by decide)) <|
  Chain.cons (stepAt_nullary 2428 _ _ rfl) <|
  Chain.cons (stepAt_unary 2429 _ _ _ rfl (by decide)) <|
  Chain.cons (stepAt_binary 2430 _ _ _ _ rfl (by decide) (by decide)) <|
  Chain.cons (stepAt_ternary 2431 _ _ _ _ _ rfl (by decide) (by decide) (by decide)) <|
  Chain.cons (stepAt_unary 2432 _ _ _ rfl (by decide)) <|
  Chain.cons (stepAt_unary 2433 _ _ _ rfl (by decide)) <|
  Chain.cons (stepAt_binary 2434 _ _ _ _ rfl (by decide) (by decide)) <|
  Chain.cons (stepAt_binary 2435 _ _ _ _ rfl (by decide) (by decide)) <|
  Chain.cons (stepAt_nullary 2436 _ _ rfl) <|
  Chain.cons (stepAt_unary 2437 _ _ _ rfl (by decide)) <|
  Chain.cons (stepAt_binary 2438 _ _ _ _ rfl (by decide) (by decide)) <|
  Chain.cons (stepAt_nullary 2439 _ _ rfl) <|
  Chain.cons (stepAt_unary 2440 _ _ _ rfl (by decide)) <|
  Chain.cons (stepAt_binary 2441 _ _ _ _ rfl (by decide) (by decide)) <|
  Chain.cons (stepAt_ternary 2442 _ _ _ _ _ rfl (by decide) (by decide) (by decide)) <|
  Chain.cons (stepAt_nullary 2443 _ _ rfl) <|
  Chain.cons (stepAt_unary 2444 _ _ _ rfl (by decide)) <|
  Chain.cons (stepAt_binary 2445 _ _ _ _ rfl (by decide) (by decide)) <|
  Chain.cons (stepAt_nullary 2446 _ _ rfl) <|
  Chain.cons (stepAt_unary 2447 _ _ _ rfl (by decide)) <|
  Chain.cons (stepAt_binary 2448 _ _ _ _ rfl (by decide) (by decide)) <|
  Chain.cons (stepAt_ternary 2449 _ _ _ _ _ rfl (by decide) (by decide) (by decide)) <|
  Chain.cons (stepAt_unary 2450 _ _ _ rfl (by decide)) <|
  Chain.cons (stepAt_unary 2451 _ _ _ rfl (by decide)) <|
  Chain.cons (stepAt_binary 2452 _ _ _ _ rfl (by decide) (by decide)) <|
  Chain.cons (stepAt_binary 2453 _ _ _ _ rfl (by decide) (by decide)) <|
  Chain.cons (stepAt_nullary 2454 _ _ rfl) <|
  Chain.cons (stepAt_unary 2455 _ _ _ rfl (by decide)) <|
  Chain.cons (stepAt_binary 2456 _ _ _ _ rfl (by decide) (by decide)) <|
  Chain.cons (stepAt_unary 2457 _ _ _ rfl (by decide)) <|
  Chain.cons (stepAt_unary 2458 _ _ _ rfl (by decide)) <|
  Chain.cons (stepAt_binary 2459 _ _ _ _ rfl (by decide) (by decide)) <|
  Chain.cons (stepAt_nullary 2460 _ _ rfl) <|
  Chain.cons (stepAt_unary 2461 _ _ _ rfl (by decide)) <|
  Chain.cons (stepAt_binary 2462 _ _ _ _ rfl (by decide) (by decide)) <|
  Chain.cons (stepAt_unary 2463 _ _ _ rfl (by decide)) <|
  Chain.cons (stepAt_unary 2464 _ _ _ rfl (by decide)) <|
  Chain.cons (stepAt_binary 2465 _ _ _ _ rfl (by decide) (by decide)) <|
  Chain.cons (stepAt_unary 2466 _ _ _ rfl (by decide)) <|
  Chain.cons (stepAt_unary 2467 _ _ _ rfl (by decide)) <|
  Chain.cons (stepAt_binary 2468 _ _ _ _ rfl (by decide) (by decide)) <|
  Chain.cons (stepAt_nullary 2469 _ _ rfl) <|
  Chain.cons (stepAt_unary 2470 _ _ _ rfl (by decide)) <|
  Chain.cons (stepAt_binary 2471 _ _ _ _ rfl (by decide) (by decide)) <|
  Chain.cons (stepAt_unary 2472 _ _ _ rfl (by decide)) <|
  Chain.cons (stepAt_unary 2473 _ _ _ rfl (by decide)) <|
  Chain.cons (stepAt_binary 2474 _ _ _ _ rfl (by decide) (by decide)) <|
  Chain.cons (stepAt_binary 2475 _ _ _ _ rfl (by decide) (by decide)) <|
  Chain.cons (stepAt_nullary 2476 _ _ rfl) <|
  Chain.cons (stepAt_unary 2477 _ _ _ rfl (by decide)) <|
  Chain.cons (stepAt_binary 2478 _ _ _ _ rfl (by decide) (by decide)) <|
  Chain.cons (stepAt_unary 2479 _ _ _ rfl (by decide)) <|
  Chain.cons (stepAt_unary 2480 _ _ _ rfl (by decide)) <|
  Chain.cons (stepAt_binary 2481 _ _ _ _ rfl (by decide) (by decide)) <|
  Chain.cons (stepAt_unary 2482 _ _ _ rfl (by decide)) <|
  Chain.cons (stepAt_unary 2483 _ _ _ rfl (by decide)) <|
  Chain.cons (stepAt_binary 2484 _ _ _ _ rfl (by decide) (by decide)) <|
  Chain.cons (stepAt_binary 2485 _ _ _ _ rfl (by decide) (by decide)) <|
  Chain.cons (stepAt_unary 2486 _ _ _ rfl (by decide)) <|
  Chain.cons (stepAt_unary 2487 _ _ _ rfl (by decide)) <|
  Chain.cons (stepAt_binary 2488 _ _ _ _ rfl (by decide) (by decide)) <|
  Chain.cons (stepAt_unary 2489 _ _ _ rfl (by decide)) <|
  Chain.cons (stepAt_unary 2490 _ _ _ rfl (by decide)) <|
  Chain.cons (stepAt_binary 2491 _ _ _ _ rfl (by decide) (by decide)) <|
  Chain.cons (stepAt_binary 2492 _ _ _ _ rfl (by decide) (by decide)) <|
  Chain.cons (stepAt_unary 2493 _ _ _ rfl (by decide)) <|
  Chain.cons (stepAt_nullary 2494 _ _ rfl) <|
  Chain.cons (stepAt_unary 2495 _ _ _ rfl (by decide)) <|
  Chain.cons (stepAt_binary 2496 _ _ _ _ rfl (by decide) (by decide)) <|
  Chain.cons (stepAt_nullary 2497 _ _ rfl) <|
  Chain.cons (stepAt_unary 2498 _ _ _ rfl (by decide)) <|
  Chain.cons (stepAt_binary 2499 _ _ _ _ rfl (by decide) (by decide)) <|
  Chain.cons (stepAt_ternary 2500 _ _ _ _ _ rfl (by decide) (by decide) (by decide)) <|
  Chain.cons (stepAt_unary 2501 _ _ _ rfl (by decide)) <|
  Chain.cons (stepAt_binary 2502 _ _ _ _ rfl (by decide) (by decide)) <|
  Chain.cons (stepAt_unary 2503 _ _ _ rfl (by decide)) <|
  Chain.cons (stepAt_reshape 2504 _ _ _ _ rfl (by decide)) <|
  Chain.cons (stepAt_nullary 2505 _ _ rfl) <|
  Chain.cons (stepAt_unary 2506 _ _ _ rfl (by decide)) <|
  Chain.cons (stepAt_binary 2507 _ _ _ _ rfl (by decide) (by decide)) <|
  Chain.cons (stepAt_nullary 2508 _ _ rfl) <|
  Chain.cons (stepAt_unary 2509 _ _ _ rfl (by decide)) <|
  Chain.cons (stepAt_binary 2510 _ _ _ _ rfl (by decide) (by decide)) <|
  Chain.cons (stepAt_nullary 2511 _ _ rfl) <|
  Chain.cons (stepAt_unary 2512 _ _ _ rfl (by decide)) <|
  Chain.cons (stepAt_binary 2513 _ _ _ _ rfl (by decide) (by decide)) <|
  Chain.cons (stepAt_unary 2514 _ _ _ rfl (by decide)) <|
  Chain.cons (stepAt_reshape 2515 _ _ _ _ rfl (by decide)) <|
  Chain.cons (stepAt_nullary 2516 _ _ rfl) <|
  Chain.cons (stepAt_unary 2517 _ _ _ rfl (by decide)) <|
  Chain.cons (stepAt_binary 2518 _ _ _ _ rfl (by decide) (by decide)) <|
  Chain.cons (stepAt_nullary 2519 _ _ rfl) <|
  Chain.cons (stepAt_unary 2520 _ _ _ rfl (by decide)) <|
  Chain.cons (stepAt_binary 2521 _ _ _ _ rfl (by decide) (by decide)) <|
  Chain.cons (stepAt_nullary 2522 _ _ rfl) <|
  Chain.cons (stepAt_unary 2523 _ _ _ rfl (by decide)) <|
  Chain.cons (stepAt_binary 2524 _ _ _ _ rfl (by decide) (by decide)) <|
  Chain.cons (stepAt_unary 2525 _ _ _ rfl (by decide)) <|
  Chain.cons (stepAt_unary 2526 _ _ _ rfl (by decide)) <|
  Chain.cons (stepAt_binary 2527 _ _ _ _ rfl (by decide) (by decide)) <|
  Chain.cons (stepAt_binary 2528 _ _ _ _ rfl (by decide) (by decide)) <|
  Chain.cons (stepAt_unary 2529 _ _ _ rfl (by decide)) <|
  Chain.cons (stepAt_nullary 2530 _ _ rfl) <|
  Chain.cons (stepAt_nullary 2531 _ _ rfl) <|
  Chain.nil
theorem hostOps0_104_length : (hostOps0_104 : List (HloOp τ sig (Elt F))).length = 150 := rfl

set_option maxHeartbeats 4000000 in
/-- Operations 2504 … 2509 of the program, writing buffers 2532 … 2537. -/
theorem hostOps0_105_chain : Chain 2532 (hostOps0_105 : List (HloOp τ sig (Elt F))) :=
  Chain.cons (stepAt_unary 2532 _ _ _ rfl (by decide)) <|
  Chain.cons (stepAt_unary 2533 _ _ _ rfl (by decide)) <|
  Chain.cons (stepAt_binary 2534 _ _ _ _ rfl (by decide) (by decide)) <|
  Chain.cons (stepAt_unary 2535 _ _ _ rfl (by decide)) <|
  Chain.cons (stepAt_unary 2536 _ _ _ rfl (by decide)) <|
  Chain.cons (stepAt_binary 2537 _ _ _ _ rfl (by decide) (by decide)) <|
  Chain.nil
theorem hostOps0_105_length : (hostOps0_105 : List (HloOp τ sig (Elt F))).length = 6 := rfl

set_option maxHeartbeats 4000000 in
/-- Operations 2510 … 2514 of the program, writing buffers 2538 … 2542. -/
theorem hostOps0_106_chain : Chain 2538 (hostOps0_106 : List (HloOp τ sig (Elt F))) :=
  Chain.cons (stepAt_nullary 2538 _ _ rfl) <|
  Chain.cons (stepAt_unary 2539 _ _ _ rfl (by decide)) <|
  Chain.cons (stepAt_binary 2540 _ _ _ _ rfl (by decide) (by decide)) <|
  Chain.cons (stepAt_nullary 2541 _ _ rfl) <|
  Chain.cons (stepAt_nullary 2542 _ _ rfl) <|
  Chain.nil
theorem hostOps0_106_length : (hostOps0_106 : List (HloOp τ sig (Elt F))).length = 5 := rfl

set_option maxHeartbeats 4000000 in
/-- Operations 2515 … 2520 of the program, writing buffers 2543 … 2548. -/
theorem hostOps0_107_chain : Chain 2543 (hostOps0_107 : List (HloOp τ sig (Elt F))) :=
  Chain.cons (stepAt_unary 2543 _ _ _ rfl (by decide)) <|
  Chain.cons (stepAt_unary 2544 _ _ _ rfl (by decide)) <|
  Chain.cons (stepAt_binary 2545 _ _ _ _ rfl (by decide) (by decide)) <|
  Chain.cons (stepAt_unary 2546 _ _ _ rfl (by decide)) <|
  Chain.cons (stepAt_unary 2547 _ _ _ rfl (by decide)) <|
  Chain.cons (stepAt_binary 2548 _ _ _ _ rfl (by decide) (by decide)) <|
  Chain.nil
theorem hostOps0_107_length : (hostOps0_107 : List (HloOp τ sig (Elt F))).length = 6 := rfl

set_option maxHeartbeats 4000000 in
/-- Operations 2521 … 2523 of the program, writing buffers 2549 … 2551. -/
theorem hostOps0_108_chain : Chain 2549 (hostOps0_108 : List (HloOp τ sig (Elt F))) :=
  Chain.cons (stepAt_unary 2549 _ _ _ rfl (by decide)) <|
  Chain.cons (stepAt_nullary 2550 _ _ rfl) <|
  Chain.cons (stepAt_nullary 2551 _ _ rfl) <|
  Chain.nil
theorem hostOps0_108_length : (hostOps0_108 : List (HloOp τ sig (Elt F))).length = 3 := rfl

set_option maxHeartbeats 4000000 in
/-- Operations 2524 … 2529 of the program, writing buffers 2552 … 2557. -/
theorem hostOps0_109_chain : Chain 2552 (hostOps0_109 : List (HloOp τ sig (Elt F))) :=
  Chain.cons (stepAt_unary 2552 _ _ _ rfl (by decide)) <|
  Chain.cons (stepAt_unary 2553 _ _ _ rfl (by decide)) <|
  Chain.cons (stepAt_binary 2554 _ _ _ _ rfl (by decide) (by decide)) <|
  Chain.cons (stepAt_unary 2555 _ _ _ rfl (by decide)) <|
  Chain.cons (stepAt_unary 2556 _ _ _ rfl (by decide)) <|
  Chain.cons (stepAt_binary 2557 _ _ _ _ rfl (by decide) (by decide)) <|
  Chain.nil
theorem hostOps0_109_length : (hostOps0_109 : List (HloOp τ sig (Elt F))).length = 6 := rfl

set_option maxHeartbeats 4000000 in
/-- Operations 2530 … 2534 of the program, writing buffers 2558 … 2562. -/
theorem hostOps0_110_chain : Chain 2558 (hostOps0_110 : List (HloOp τ sig (Elt F))) :=
  Chain.cons (stepAt_nullary 2558 _ _ rfl) <|
  Chain.cons (stepAt_unary 2559 _ _ _ rfl (by decide)) <|
  Chain.cons (stepAt_binary 2560 _ _ _ _ rfl (by decide) (by decide)) <|
  Chain.cons (stepAt_nullary 2561 _ _ rfl) <|
  Chain.cons (stepAt_nullary 2562 _ _ rfl) <|
  Chain.nil
theorem hostOps0_110_length : (hostOps0_110 : List (HloOp τ sig (Elt F))).length = 5 := rfl

set_option maxHeartbeats 4000000 in
/-- Operations 2535 … 2540 of the program, writing buffers 2563 … 2568. -/
theorem hostOps0_111_chain : Chain 2563 (hostOps0_111 : List (HloOp τ sig (Elt F))) :=
  Chain.cons (stepAt_unary 2563 _ _ _ rfl (by decide)) <|
  Chain.cons (stepAt_unary 2564 _ _ _ rfl (by decide)) <|
  Chain.cons (stepAt_binary 2565 _ _ _ _ rfl (by decide) (by decide)) <|
  Chain.cons (stepAt_unary 2566 _ _ _ rfl (by decide)) <|
  Chain.cons (stepAt_unary 2567 _ _ _ rfl (by decide)) <|
  Chain.cons (stepAt_binary 2568 _ _ _ _ rfl (by decide) (by decide)) <|
  Chain.nil
theorem hostOps0_111_length : (hostOps0_111 : List (HloOp τ sig (Elt F))).length = 6 := rfl

set_option maxHeartbeats 4000000 in
/-- Operations 2541 … 2690 of the program, writing buffers 2569 … 2718. -/
theorem hostOps0_112_chain : Chain 2569 (hostOps0_112 : List (HloOp τ sig (Elt F))) :=
  Chain.cons (stepAt_nullary 2569 _ _ rfl) <|
  Chain.cons (stepAt_unary 2570 _ _ _ rfl (by decide)) <|
  Chain.cons (stepAt_binary 2571 _ _ _ _ rfl (by decide) (by decide)) <|
  Chain.cons (stepAt_nullary 2572 _ _ rfl) <|
  Chain.cons (stepAt_unary 2573 _ _ _ rfl (by decide)) <|
  Chain.cons (stepAt_binary 2574 _ _ _ _ rfl (by decide) (by decide)) <|
  Chain.cons (stepAt_ternary 2575 _ _ _ _ _ rfl (by decide) (by decide) (by decide)) <|
  Chain.cons (stepAt_nullary 2576 _ _ rfl) <|
  Chain.cons (stepAt_unary 2577 _ _ _ rfl (by decide)) <|
  Chain.cons (stepAt_binary 2578 _ _ _ _ rfl (by decide) (by decide)) <|
  Chain.cons (stepAt_nullary 2579 _ _ rfl) <|
  Chain.cons (stepAt_unary 2580 _ _ _ rfl (by decide)) <|
  Chain.cons (stepAt_binary 2581 _ _ _ _ rfl (by decide) (by decide)) <|
  Chain.cons (stepAt_ternary 2582 _ _ _ _ _ rfl (by decide) (by decide) (by decide)) <|
  Chain.cons (stepAt_unary 2583 _ _ _ rfl (by decide)) <|
  Chain.cons (stepAt_unary 2584 _ _ _ rfl (by decide)) <|
  Chain.cons (stepAt_binary 2585 _ _ _ _ rfl (by decide) (by decide)) <|
  Chain.cons (stepAt_binary 2586 _ _ _ _ rfl (by decide) (by decide)) <|
  Chain.cons (stepAt_nullary 2587 _ _ rfl) <|
  Chain.cons (stepAt_unary 2588 _ _ _ rfl (by decide)) <|
  Chain.cons (stepAt_binary 2589 _ _ _ _ rfl (by decide) (by decide)) <|
  Chain.cons (stepAt_nullary 2590 _ _ rfl) <|
  Chain.cons (stepAt_unary 2591 _ _ _ rfl (by decide)) <|
  Chain.cons (stepAt_binary 2592 _ _ _ _ rfl (by decide) (by decide)) <|
  Chain.cons (stepAt_ternary 2593 _ _ _ _ _ rfl (by decide) (by decide) (by decide)) <|
  Chain.cons (stepAt_nullary 2594 _ _ rfl) <|
  Chain.cons (stepAt_unary 2595 _ _ _ rfl (by decide)) <|
  Chain.cons (stepAt_binary 2596 _ _ _ _ rfl (by decide) (by decide)) <|
  Chain.cons (stepAt_nullary 2597 _ _ rfl) <|
  Chain.cons (stepAt_unary 2598 _ _ _ rfl (by decide)) <|
  Chain.cons (stepAt_binary 2599 _ _ _ _ rfl (by decide) (by decide)) <|
  Chain.cons (stepAt_ternary 2600 _ _ _ _ _ rfl (by decide) (by decide) (by decide)) <|
  Chain.cons (stepAt_unary 2601 _ _ _ rfl (by decide)) <|
  Chain.cons (stepAt_unary 2602 _ _ _ rfl (by decide)) <|
  Chain.cons (stepAt_binary 2603 _ _ _ _ rfl (by decide) (by decide)) <|
  Chain.cons (stepAt_binary 2604 _ _ _ _ rfl (by decide) (by decide)) <|
  Chain.cons (stepAt_nullary 2605 _ _ rfl) <|
  Chain.cons (stepAt_unary 2606 _ _ _ rfl (by decide)) <|
  Chain.cons (stepAt_binary 2607 _ _ _ _ rfl (by decide) (by decide)) <|
  Chain.cons (stepAt_nullary 2608 _ _ rfl) <|
  Chain.cons (stepAt_unary 2609 _ _ _ rfl (by decide)) <|
  Chain.cons (stepAt_binary 2610 _ _ _ _ rfl (by decide) (by decide)) <|
  Chain.cons (stepAt_ternary 2611 _ _ _ _ _ rfl (by decide) (by decide) (by decide)) <|
  Chain.cons (stepAt_nullary 2612 _ _ rfl) <|
  Chain.cons (stepAt_unary 2613 _ _ _ rfl (by decide)) <|
  Chain.cons (stepAt_binary 2614 _ _ _ _ rfl (by decide) (by decide)) <|
  Chain.cons (stepAt_nullary 2615 _ _ rfl) <|
  Chain.cons (stepAt_unary 2616 _ _ _ rfl (by decide)) <|
  Chain.cons (stepAt_binary 2617 _ _ _ _ rfl (by decide) (by decide)) <|
  Chain.cons (stepAt_ternary 2618 _ _ _ _ _ rfl (by decide) (by decide) (by decide)) <|
  Chain.cons (stepAt_unary 2619 _ _ _ rfl (by decide)) <|
  Chain.cons (stepAt_unary 2620 _ _ _ rfl (by decide)) <|
  Chain.cons (stepAt_binary 2621 _ _ _ _ rfl (by decide) (by decide)) <|
  Chain.cons (stepAt_binary 2622 _ _ _ _ rfl (by decide) (by decide)) <|
  Chain.cons (stepAt_nullary 2623 _ _ rfl) <|
  Chain.cons (stepAt_unary 2624 _ _ _ rfl (by decide)) <|
  Chain.cons (stepAt_binary 2625 _ _ _ _ rfl (by decide) (by decide)) <|
  Chain.cons (stepAt_nullary 2626 _ _ rfl) <|
  Chain.cons (stepAt_unary 2627 _ _ _ rfl (by decide)) <|
  Chain.cons (stepAt_binary 2628 _ _ _ _ rfl (by decide) (by decide)) <|
  Chain.cons (stepAt_ternary 2629 _ _ _ _ _ rfl (by decide) (by decide) (by decide)) <|
  Chain.cons (stepAt_nullary 2630 _ _ rfl) <|
  Chain.cons (stepAt_unary 2631 _ _ _ rfl (by decide)) <|
  Chain.cons (stepAt_binary 2632 _ _ _ _ rfl (by decide) (by decide)) <|
  Chain.cons (stepAt_nullary 2633 _ _ rfl) <|
  Chain.cons (stepAt_unary 2634 _ _ _ rfl (by decide)) <|
  Chain.cons (stepAt_binary 2635 _ _ _ _ rfl (by decide) (by decide)) <|
  Chain.cons (stepAt_ternary 2636 _ _ _ _ _ rfl (by decide) (by decide) (by decide)) <|
  Chain.cons (stepAt_unary 2637 _ _ _ rfl (by decide)) <|
  Chain.cons (stepAt_unary 2638 _ _ _ rfl (by decide)) <|
  Chain.cons (stepAt_binary 2639 _ _ _ _ rfl (by decide) (by decide)) <|
  Chain.cons (stepAt_binary 2640 _ _ _ _ rfl (by decide) (by decide)) <|
  Chain.cons (stepAt_nullary 2641 _ _ rfl) <|
  Chain.cons (stepAt_unary 2642 _ _ _ rfl (by decide)) <|
  Chain.cons (stepAt_binary 2643 _ _ _ _ rfl (by decide) (by decide)) <|
  Chain.cons (stepAt_unary 2644 _ _ _ rfl (by decide)) <|
  Chain.cons (stepAt_unary 2645 _ _ _ rfl (by decide)) <|
  Chain.cons (stepAt_binary 2646 _ _ _ _ rfl (by decide) (by decide)) <|
  Chain.cons (stepAt_nullary 2647 _ _ rfl) <|
  Chain.cons (stepAt_unary 2648 _ _ _ rfl (by decide)) <|
  Chain.cons (stepAt_binary 2649 _ _ _ _ rfl (by decide) (by decide)) <|
  Chain.cons (stepAt_unary 2650 _ _ _ rfl (by decide)) <|
  Chain.cons (stepAt_unary 2651 _ _ _ rfl (by decide)) <|
  Chain.cons (stepAt_binary 2652 _ _ _ _ rfl (by decide) (by decide)) <|
  Chain.cons (stepAt_unary 2653 _ _ _ rfl (by decide)) <|
  Chain.cons (stepAt_unary 2654 _ _ _ rfl (by decide)) <|
  Chain.cons (stepAt_binary 2655 _ _ _ _ rfl (by decide) (by decide)) <|
  Chain.cons (stepAt_nullary 2656 _ _ rfl) <|
  Chain.cons (stepAt_unary 2657 _ _ _ rfl (by decide)) <|
  Chain.cons (stepAt_binary 2658 _ _ _ _ rfl (by decide) (by decide)) <|
  Chain.cons (stepAt_unary 2659 _ _ _ rfl (by decide)) <|
  Chain.cons (stepAt_unary 2660 _ _ _ rfl (by decide)) <|
  Chain.cons (stepAt_binary 2661 _ _ _ _ rfl (by decide) (by decide)) <|
  Chain.cons (stepAt_binary 2662 _ _ _ _ rfl (by decide) (by decide)) <|
  Chain.cons (stepAt_nullary 2663 _ _ rfl) <|
  Chain.cons (stepAt_unary 2664 _ _ _ rfl (by decide)) <|
  Chain.cons (stepAt_binary 2665 _ _ _ _ rfl (by decide) (by decide)) <|
  Chain.cons (stepAt_unary 2666 _ _ _ rfl (by decide)) <|
  Chain.cons (stepAt_unary 2667 _ _ _ rfl (by decide)) <|
  Chain.cons (stepAt_binary 2668 _ _ _ _ rfl (by decide) (by decide)) <|
  Chain.cons (stepAt_unary 2669 _ _ _ rfl (by decide)) <|
  Chain.cons (stepAt_unary 2670 _ _ _ rfl (by decide)) <|
  Chain.cons (stepAt_binary 2671 _ _ _ _ rfl (by decide) (by decide)) <|
  Chain.cons (stepAt_binary 2672 _ _ _ _ rfl (by decide) (by decide)) <|
  Chain.cons (stepAt_unary 2673 _ _ _ rfl (by decide)) <|
  Chain.cons (stepAt_unary 2674 _ _ _ rfl (by decide)) <|
  Chain.cons (stepAt_binary 2675 _ _ _ _ rfl (by decide) (by decide)) <|
  Chain.cons (stepAt_unary 2676 _ _ _ rfl (by decide)) <|
  Chain.cons (stepAt_unary 2677 _ _ _ rfl (by decide)) <|
  Chain.cons (stepAt_binary 2678 _ _ _ _ rfl (by decide) (by decide)) <|
  Chain.cons (stepAt_binary 2679 _ _ _ _ rfl (by decide) (by decide)) <|
  Chain.cons (stepAt_unary 2680 _ _ _ rfl (by decide)) <|
  Chain.cons (stepAt_nullary 2681 _ _ rfl) <|
  Chain.cons (stepAt_unary 2682 _ _ _ rfl (by decide)) <|
  Chain.cons (stepAt_binary 2683 _ _ _ _ rfl (by decide) (by decide)) <|
  Chain.cons (stepAt_nullary 2684 _ _ rfl) <|
  Chain.cons (stepAt_unary 2685 _ _ _ rfl (by decide)) <|
  Chain.cons (stepAt_binary 2686 _ _ _ _ rfl (by decide) (by decide)) <|
  Chain.cons (stepAt_ternary 2687 _ _ _ _ _ rfl (by decide) (by decide) (by decide)) <|
  Chain.cons (stepAt_unary 2688 _ _ _ rfl (by decide)) <|
  Chain.cons (stepAt_binary 2689 _ _ _ _ rfl (by decide) (by decide)) <|
  Chain.cons (stepAt_unary 2690 _ _ _ rfl (by decide)) <|
  Chain.cons (stepAt_reshape 2691 _ _ _ _ rfl (by decide)) <|
  Chain.cons (stepAt_nullary 2692 _ _ rfl) <|
  Chain.cons (stepAt_unary 2693 _ _ _ rfl (by decide)) <|
  Chain.cons (stepAt_binary 2694 _ _ _ _ rfl (by decide) (by decide)) <|
  Chain.cons (stepAt_nullary 2695 _ _ rfl) <|
  Chain.cons (stepAt_unary 2696 _ _ _ rfl (by decide)) <|
  Chain.cons (stepAt_binary 2697 _ _ _ _ rfl (by decide) (by decide)) <|
  Chain.cons (stepAt_nullary 2698 _ _ rfl) <|
  Chain.cons (stepAt_unary 2699 _ _ _ rfl (by decide)) <|
  Chain.cons (stepAt_binary 2700 _ _ _ _ rfl (by decide) (by decide)) <|
  Chain.cons (stepAt_unary 2701 _ _ _ rfl (by decide)) <|
  Chain.cons (stepAt_reshape 2702 _ _ _ _ rfl (by decide)) <|
  Chain.cons (stepAt_nullary 2703 _ _ rfl) <|
  Chain.cons (stepAt_unary 2704 _ _ _ rfl (by decide)) <|
  Chain.cons (stepAt_binary 2705 _ _ _ _ rfl (by decide) (by decide)) <|
  Chain.cons (stepAt_nullary 2706 _ _ rfl) <|
  Chain.cons (stepAt_unary 2707 _ _ _ rfl (by decide)) <|
  Chain.cons (stepAt_binary 2708 _ _ _ _ rfl (by decide) (by decide)) <|
  Chain.cons (stepAt_nullary 2709 _ _ rfl) <|
  Chain.cons (stepAt_unary 2710 _ _ _ rfl (by decide)) <|
  Chain.cons (stepAt_binary 2711 _ _ _ _ rfl (by decide) (by decide)) <|
  Chain.cons (stepAt_unary 2712 _ _ _ rfl (by decide)) <|
  Chain.cons (stepAt_unary 2713 _ _ _ rfl (by decide)) <|
  Chain.cons (stepAt_binary 2714 _ _ _ _ rfl (by decide) (by decide)) <|
  Chain.cons (stepAt_binary 2715 _ _ _ _ rfl (by decide) (by decide)) <|
  Chain.cons (stepAt_unary 2716 _ _ _ rfl (by decide)) <|
  Chain.cons (stepAt_nullary 2717 _ _ rfl) <|
  Chain.cons (stepAt_nullary 2718 _ _ rfl) <|
  Chain.nil
theorem hostOps0_112_length : (hostOps0_112 : List (HloOp τ sig (Elt F))).length = 150 := rfl

set_option maxHeartbeats 4000000 in
/-- Operations 2691 … 2696 of the program, writing buffers 2719 … 2724. -/
theorem hostOps0_113_chain : Chain 2719 (hostOps0_113 : List (HloOp τ sig (Elt F))) :=
  Chain.cons (stepAt_unary 2719 _ _ _ rfl (by decide)) <|
  Chain.cons (stepAt_unary 2720 _ _ _ rfl (by decide)) <|
  Chain.cons (stepAt_binary 2721 _ _ _ _ rfl (by decide) (by decide)) <|
  Chain.cons (stepAt_unary 2722 _ _ _ rfl (by decide)) <|
  Chain.cons (stepAt_unary 2723 _ _ _ rfl (by decide)) <|
  Chain.cons (stepAt_binary 2724 _ _ _ _ rfl (by decide) (by decide)) <|
  Chain.nil
theorem hostOps0_113_length : (hostOps0_113 : List (HloOp τ sig (Elt F))).length = 6 := rfl

set_option maxHeartbeats 4000000 in
/-- Operations 2697 … 2701 of the program, writing buffers 2725 … 2729. -/
theorem hostOps0_114_chain : Chain 2725 (hostOps0_114 : List (HloOp τ sig (Elt F))) :=
  Chain.cons (stepAt_nullary 2725 _ _ rfl) <|
  Chain.cons (stepAt_unary 2726 _ _ _ rfl (by decide)) <|
  Chain.cons (stepAt_binary 2727 _ _ _ _ rfl (by decide) (by decide)) <|
  Chain.cons (stepAt_nullary 2728 _ _ rfl) <|
  Chain.cons (stepAt_nullary 2729 _ _ rfl) <|
  Chain.nil
theorem hostOps0_114_length : (hostOps0_114 : List (HloOp τ sig (Elt F))).length = 5 := rfl

set_option maxHeartbeats 4000000 in
/-- Operations 2702 … 2707 of the program, writing buffers 2730 … 2735. -/
theorem hostOps0_115_chain : Chain 2730 (hostOps0_115 : List (HloOp τ sig (Elt F))) :=
  Chain.cons (stepAt_unary 2730 _ _ _ rfl (by decide)) <|
  Chain.cons (stepAt_unary 2731 _ _ _ rfl (by decide)) <|
  Chain.cons (stepAt_binary 2732 _ _ _ _ rfl (by decide) (by decide)) <|
  Chain.cons (stepAt_unary 2733 _ _ _ rfl (by decide)) <|
  Chain.cons (stepAt_unary 2734 _ _ _ rfl (by decide)) <|
  Chain.cons (stepAt_binary 2735 _ _ _ _ rfl (by decide) (by decide)) <|
  Chain.nil
theorem hostOps0_115_length : (hostOps0_115 : List (HloOp τ sig (Elt F))).length = 6 := rfl

set_option maxHeartbeats 4000000 in
/-- Operations 2708 … 2710 of the program, writing buffers 2736 … 2738. -/
theorem hostOps0_116_chain : Chain 2736 (hostOps0_116 : List (HloOp τ sig (Elt F))) :=
  Chain.cons (stepAt_unary 2736 _ _ _ rfl (by decide)) <|
  Chain.cons (stepAt_nullary 2737 _ _ rfl) <|
  Chain.cons (stepAt_nullary 2738 _ _ rfl) <|
  Chain.nil
theorem hostOps0_116_length : (hostOps0_116 : List (HloOp τ sig (Elt F))).length = 3 := rfl

set_option maxHeartbeats 4000000 in
/-- Operations 2711 … 2716 of the program, writing buffers 2739 … 2744. -/
theorem hostOps0_117_chain : Chain 2739 (hostOps0_117 : List (HloOp τ sig (Elt F))) :=
  Chain.cons (stepAt_unary 2739 _ _ _ rfl (by decide)) <|
  Chain.cons (stepAt_unary 2740 _ _ _ rfl (by decide)) <|
  Chain.cons (stepAt_binary 2741 _ _ _ _ rfl (by decide) (by decide)) <|
  Chain.cons (stepAt_unary 2742 _ _ _ rfl (by decide)) <|
  Chain.cons (stepAt_unary 2743 _ _ _ rfl (by decide)) <|
  Chain.cons (stepAt_binary 2744 _ _ _ _ rfl (by decide) (by decide)) <|
  Chain.nil
theorem hostOps0_117_length : (hostOps0_117 : List (HloOp τ sig (Elt F))).length = 6 := rfl

set_option maxHeartbeats 4000000 in
/-- Operations 2717 … 2721 of the program, writing buffers 2745 … 2749. -/
theorem hostOps0_118_chain : Chain 2745 (hostOps0_118 : List (HloOp τ sig (Elt F))) :=
  Chain.cons (stepAt_nullary 2745 _ _ rfl) <|
  Chain.cons (stepAt_unary 2746 _ _ _ rfl (by decide)) <|
  Chain.cons (stepAt_binary 2747 _ _ _ _ rfl (by decide) (by decide)) <|
  Chain.cons (stepAt_nullary 2748 _ _ rfl) <|
  Chain.cons (stepAt_nullary 2749 _ _ rfl) <|
  Chain.nil
theorem hostOps0_118_length : (hostOps0_118 : List (HloOp τ sig (Elt F))).length = 5 := rfl

set_option maxHeartbeats 4000000 in
/-- Operations 2722 … 2727 of the program, writing buffers 2750 … 2755. -/
theorem hostOps0_119_chain : Chain 2750 (hostOps0_119 : List (HloOp τ sig (Elt F))) :=
  Chain.cons (stepAt_unary 2750 _ _ _ rfl (by decide)) <|
  Chain.cons (stepAt_unary 2751 _ _ _ rfl (by decide)) <|
  Chain.cons (stepAt_binary 2752 _ _ _ _ rfl (by decide) (by decide)) <|
  Chain.cons (stepAt_unary 2753 _ _ _ rfl (by decide)) <|
  Chain.cons (stepAt_unary 2754 _ _ _ rfl (by decide)) <|
  Chain.cons (stepAt_binary 2755 _ _ _ _ rfl (by decide) (by decide)) <|
  Chain.nil
theorem hostOps0_119_length : (hostOps0_119 : List (HloOp τ sig (Elt F))).length = 6 := rfl

end Cert.KernelIdeal.Stretch

end
-- ==== Proof.KIStretch3.lean ====
/- The stretches of @main's host operations before the kernel's region are single-assignment lines: the operations of a
   stretch write the consecutive buffers numbered from the stated bound, each reading only buffers of smaller numbers. -/
import proofs.«133805_j10187662426200_2_alg».proof.Proof.Gen.KernelIdeal.Launch
import proofs.«133805_j10187662426200_2_alg».proof.Proof.HostChain

set_option maxRecDepth 65536

noncomputable section

namespace Cert.KernelIdeal.Stretch

open Cert.KernelIdeal Cert.KernelIdeal.Gen Idealize.ShloMosaic Idealize.ShloMosaic.TcCoe Idealize.SL.Sem Idealize.ShloMosaic.StableHlo Cert.HostFold

variable {F : FTy → Type} [FloatOps F]

set_option maxHeartbeats 4000000 in
/-- Operations 2728 … 2877 of the program, writing buffers 2756 … 2905. -/
theorem hostOps0_120_chain : Chain 2756 (hostOps0_120 : List (HloOp τ sig (Elt F))) :=
  Chain.cons (stepAt_nullary 2756 _ _ rfl) <|
  Chain.cons (stepAt_unary 2757 _ _ _ rfl (by decide)) <|
  Chain.cons (stepAt_binary 2758 _ _ _ _ rfl (by decide) (by decide)) <|
  Chain.cons (stepAt_nullary 2759 _ _ rfl) <|
  Chain.cons (stepAt_unary 2760 _ _ _ rfl (by decide)) <|
  Chain.cons (stepAt_binary 2761 _ _ _ _ rfl (by decide) (by decide)) <|
  Chain.cons (stepAt_ternary 2762 _ _ _ _ _ rfl (by decide) (by decide) (by decide)) <|
  Chain.cons (stepAt_nullary 2763 _ _ rfl) <|
  Chain.cons (stepAt_unary 2764 _ _ _ rfl (by decide)) <|
  Chain.cons (stepAt_binary 2765 _ _ _ _ rfl (by decide) (by decide)) <|
  Chain.cons (stepAt_nullary 2766 _ _ rfl) <|
  Chain.cons (stepAt_unary 2767 _ _ _ rfl (by decide)) <|
  Chain.cons (stepAt_binary 2768 _ _ _ _ rfl (by decide) (by decide)) <|
  Chain.cons (stepAt_ternary 2769 _ _ _ _ _ rfl (by decide) (by decide) (by decide)) <|
  Chain.cons (stepAt_unary 2770 _ _ _ rfl (by decide)) <|
  Chain.cons (stepAt_unary 2771 _ _ _ rfl (by decide)) <|
  Chain.cons (stepAt_binary 2772 _ _ _ _ rfl (by decide) (by decide)) <|
  Chain.cons (stepAt_binary 2773 _ _ _ _ rfl (by decide) (by decide)) <|
  Chain.cons (stepAt_nullary 2774 _ _ rfl) <|
  Chain.cons (stepAt_unary 2775 _ _ _ rfl (by decide)) <|
  Chain.cons (stepAt_binary 2776 _ _ _ _ rfl (by decide) (by decide)) <|
  Chain.cons (stepAt_nullary 2777 _ _ rfl) <|
  Chain.cons (stepAt_unary 2778 _ _ _ rfl (by decide)) <|
  Chain.cons (stepAt_binary 2779 _ _ _ _ rfl (by decide) (by decide)) <|
  Chain.cons (stepAt_ternary 2780 _ _ _ _ _ rfl (by decide) (by decide) (by decide)) <|
  Chain.cons (stepAt_nullary 2781 _ _ rfl) <|
  Chain.cons (stepAt_unary 2782 _ _ _ rfl (by decide)) <|
  Chain.cons (stepAt_binary 2783 _ _ _ _ rfl (by decide) (by decide)) <|
  Chain.cons (stepAt_nullary 2784 _ _ rfl) <|
  Chain.cons (stepAt_unary 2785 _ _ _ rfl (by decide)) <|
  Chain.cons (stepAt_binary 2786 _ _ _ _ rfl (by decide) (by decide)) <|
  Chain.cons (stepAt_ternary 2787 _ _ _ _ _ rfl (by decide) (by decide) (by decide)) <|
  Chain.cons (stepAt_unary 2788 _ _ _ rfl (by decide)) <|
  Chain.cons (stepAt_unary 2789 _ _ _ rfl (by decide)) <|
  Chain.cons (stepAt_binary 2790 _ _ _ _ rfl (by decide) (by decide)) <|
  Chain.cons (stepAt_binary 2791 _ _ _ _ rfl (by decide) (by decide)) <|
  Chain.cons (stepAt_nullary 2792 _ _ rfl) <|
  Chain.cons (stepAt_unary 2793 _ _ _ rfl (by decide)) <|
  Chain.cons (stepAt_binary 2794 _ _ _ _ rfl (by decide) (by decide)) <|
  Chain.cons (stepAt_nullary 2795 _ _ rfl) <|
  Chain.cons (stepAt_unary 2796 _ _ _ rfl (by decide)) <|
  Chain.cons (stepAt_binary 2797 _ _ _ _ rfl (by decide) (by decide)) <|
  Chain.cons (stepAt_ternary 2798 _ _ _ _ _ rfl (by decide) (by decide) (by decide)) <|
  Chain.cons (stepAt_nullary 2799 _ _ rfl) <|
  Chain.cons (stepAt_unary 2800 _ _ _ rfl (by decide)) <|
  Chain.cons (stepAt_binary 2801 _ _ _ _ rfl (by decide) (by decide)) <|
  Chain.cons (stepAt_nullary 2802 _ _ rfl) <|
  Chain.cons (stepAt_unary 2803 _ _ _ rfl (by decide)) <|
  Chain.cons (stepAt_binary 2804 _ _ _ _ rfl (by decide) (by decide)) <|
  Chain.cons (stepAt_ternary 2805 _ _ _ _ _ rfl (by decide) (by decide) (by decide)) <|
  Chain.cons (stepAt_unary 2806 _ _ _ rfl (by decide)) <|
  Chain.cons (stepAt_unary 2807 _ _ _ rfl (by decide)) <|
  Chain.cons (stepAt_binary 2808 _ _ _ _ rfl (by decide) (by decide)) <|
  Chain.cons (stepAt_binary 2809 _ _ _ _ rfl (by decide) (by decide)) <|
  Chain.cons (stepAt_nullary 2810 _ _ rfl) <|
  Chain.cons (stepAt_unary 2811 _ _ _ rfl (by decide)) <|
  Chain.cons (stepAt_binary 2812 _ _ _ _ rfl (by decide) (by decide)) <|
  Chain.cons (stepAt_nullary 2813 _ _ rfl) <|
  Chain.cons (stepAt_unary 2814 _ _ _ rfl (by decide)) <|
  Chain.cons (stepAt_binary 2815 _ _ _ _ rfl (by decide) (by decide)) <|
  Chain.cons (stepAt_ternary 2816 _ _ _ _ _ rfl (by decide) (by decide) (by decide)) <|
  Chain.cons (stepAt_nullary 2817 _ _ rfl) <|
  Chain.cons (stepAt_unary 2818 _ _ _ rfl (by decide)) <|
  Chain.cons (stepAt_binary 2819 _ _ _ _ rfl (by decide) (by decide)) <|
  Chain.cons (stepAt_nullary 2820 _ _ rfl) <|
  Chain.cons (stepAt_unary 2821 _ _ _ rfl (by decide)) <|
  Chain.cons (stepAt_binary 2822 _ _ _ _ rfl (by decide) (by decide)) <|
  Chain.cons (stepAt_ternary 2823 _ _ _ _ _ rfl (by decide) (by decide) (by decide)) <|
  Chain.cons (stepAt_unary 2824 _ _ _ rfl (by decide)) <|
  Chain.cons (stepAt_unary 2825 _ _ _ rfl (by decide)) <|
  Chain.cons (stepAt_binary 2826 _ _ _ _ rfl (by decide) (by decide)) <|
  Chain.cons (stepAt_binary 2827 _ _ _ _ rfl (by decide) (by decide)) <|
  Chain.cons (stepAt_nullary 2828 _ _ rfl) <|
  Chain.cons (stepAt_unary 2829 _ _ _ rfl (by decide)) <|
  Chain.cons (stepAt_binary 2830 _ _ _ _ rfl (by decide) (by decide)) <|
  Chain.cons (stepAt_unary 2831 _ _ _ rfl (by decide)) <|
  Chain.cons (stepAt_unary 2832 _ _ _ rfl (by decide)) <|
  Chain.cons (stepAt_binary 2833 _ _ _ _ rfl (by decide) (by decide)) <|
  Chain.cons (stepAt_nullary 2834 _ _ rfl) <|
  Chain.cons (stepAt_unary 2835 _ _ _ rfl (by decide)) <|
  Chain.cons (stepAt_binary 2836 _ _ _ _ rfl (by decide) (by decide)) <|
  Chain.cons (stepAt_unary 2837 _ _ _ rfl (by decide)) <|
  Chain.cons (stepAt_unary 2838 _ _ _ rfl (by decide)) <|
  Chain.cons (stepAt_binary 2839 _ _ _ _ rfl (by decide) (by decide)) <|
  Chain.cons (stepAt_unary 2840 _ _ _ rfl (by decide)) <|
  Chain.cons (stepAt_unary 2841 _ _ _ rfl (by decide)) <|
  Chain.cons (stepAt_binary 2842 _ _ _ _ rfl (by decide) (by decide)) <|
  Chain.cons (stepAt_nullary 2843 _ _ rfl) <|
  Chain.cons (stepAt_unary 2844 _ _ _ rfl (by decide)) <|
  Chain.cons (stepAt_binary 2845 _ _ _ _ rfl (by decide) (by decide)) <|
  Chain.cons (stepAt_unary 2846 _ _ _ rfl (by decide)) <|
  Chain.cons (stepAt_unary 2847 _ _ _ rfl (by decide)) <|
  Chain.cons (stepAt_binary 2848 _ _ _ _ rfl (by decide) (by decide)) <|
  Chain.cons (stepAt_binary 2849 _ _ _ _ rfl (by decide) (by decide)) <|
  Chain.cons (stepAt_nullary 2850 _ _ rfl) <|
  Chain.cons (stepAt_unary 2851 _ _ _ rfl (by decide)) <|
  Chain.cons (stepAt_binary 2852 _ _ _ _ rfl (by decide) (by decide)) <|
  Chain.cons (stepAt_unary 2853 _ _ _ rfl (by decide)) <|
  Chain.cons (stepAt_unary 2854 _ _ _ rfl (by decide)) <|
  Chain.cons (stepAt_binary 2855 _ _ _ _ rfl (by decide) (by decide)) <|
  Chain.cons (stepAt_unary 2856 _ _ _ rfl (by decide)) <|
  Chain.cons (stepAt_unary 2857 _ _ _ rfl (by decide)) <|
  Chain.cons (stepAt_binary 2858 _ _ _ _ rfl (by decide) (by decide)) <|
  Chain.cons (stepAt_binary 2859 _ _ _ _ rfl (by decide) (by decide)) <|
  Chain.cons (stepAt_unary 2860 _ _ _ rfl (by decide)) <|
  Chain.cons (stepAt_unary 2861 _ _ _ rfl (by decide)) <|
  Chain.cons (stepAt_binary 2862 _ _ _ _ rfl (by decide) (by decide)) <|
  Chain.cons (stepAt_unary 2863 _ _ _ rfl (by decide)) <|
  Chain.cons (stepAt_unary 2864 _ _ _ rfl (by decide)) <|
  Chain.cons (stepAt_binary 2865 _ _ _ _ rfl (by decide) (by decide)) <|
  Chain.cons (stepAt_binary 2866 _ _ _ _ rfl (by decide) (by decide)) <|
  Chain.cons (stepAt_unary 2867 _ _ _ rfl (by decide)) <|
  Chain.cons (stepAt_nullary 2868 _ _ rfl) <|
  Chain.cons (stepAt_unary 2869 _ _ _ rfl (by decide)) <|
  Chain.cons (stepAt_binary 2870 _ _ _ _ rfl (by decide) (by decide)) <|
  Chain.cons (stepAt_nullary 2871 _ _ rfl) <|
  Chain.cons (stepAt_unary 2872 _ _ _ rfl (by decide)) <|
  Chain.cons (stepAt_binary 2873 _ _ _ _ rfl (by decide) (by decide)) <|
  Chain.cons (stepAt_ternary 2874 _ _ _ _ _ rfl (by decide) (by decide) (by decide)) <|
  Chain.cons (stepAt_unary 2875 _ _ _ rfl (by decide)) <|
  Chain.cons (stepAt_binary 2876 _ _ _ _ rfl (by decide) (by decide)) <|
  Chain.cons (stepAt_unary 2877 _ _ _ rfl (by decide)) <|
  Chain.cons (stepAt_reshape 2878 _ _ _ _ rfl (by decide)) <|
  Chain.cons (stepAt_nullary 2879 _ _ rfl) <|
  Chain.cons (stepAt_unary 2880 _ _ _ rfl (by decide)) <|
  Chain.cons (stepAt_binary 2881 _ _ _ _ rfl (by decide) (by decide)) <|
  Chain.cons (stepAt_nullary 2882 _ _ rfl) <|
  Chain.cons (stepAt_unary 2883 _ _ _ rfl (by decide)) <|
  Chain.cons (stepAt_binary 2884 _ _ _ _ rfl (by decide) (by decide)) <|
  Chain.cons (stepAt_nullary 2885 _ _ rfl) <|
  Chain.cons (stepAt_unary 2886 _ _ _ rfl (by decide)) <|
  Chain.cons (stepAt_binary 2887 _ _ _ _ rfl (by decide) (by decide)) <|
  Chain.cons (stepAt_unary 2888 _ _ _ rfl (by decide)) <|
  Chain.cons (stepAt_reshape 2889 _ _ _ _ rfl (by decide)) <|
  Chain.cons (stepAt_nullary 2890 _ _ rfl) <|
  Chain.cons (stepAt_unary 2891 _ _ _ rfl (by decide)) <|
  Chain.cons (stepAt_binary 2892 _ _ _ _ rfl (by decide) (by decide)) <|
  Chain.cons (stepAt_nullary 2893 _ _ rfl) <|
  Chain.cons (stepAt_unary 2894 _ _ _ rfl (by decide)) <|
  Chain.cons (stepAt_binary 2895 _ _ _ _ rfl (by decide) (by decide)) <|
  Chain.cons (stepAt_nullary 2896 _ _ rfl) <|
  Chain.cons (stepAt_unary 2897 _ _ _ rfl (by decide)) <|
  Chain.cons (stepAt_binary 2898 _ _ _ _ rfl (by decide) (by decide)) <|
  Chain.cons (stepAt_unary 2899 _ _ _ rfl (by decide)) <|
  Chain.cons (stepAt_unary 2900 _ _ _ rfl (by decide)) <|
  Chain.cons (stepAt_binary 2901 _ _ _ _ rfl (by decide) (by decide)) <|
  Chain.cons (stepAt_binary 2902 _ _ _ _ rfl (by decide) (by decide)) <|
  Chain.cons (stepAt_unary 2903 _ _ _ rfl (by decide)) <|
  Chain.cons (stepAt_nullary 2904 _ _ rfl) <|
  Chain.cons (stepAt_nullary 2905 _ _ rfl) <|
  Chain.nil
theorem hostOps0_120_length : (hostOps0_120 : List (HloOp τ sig (Elt F))).length = 150 := rfl

set_option maxHeartbeats 4000000 in
/-- Operations 2878 … 2883 of the program, writing buffers 2906 … 2911. -/
theorem hostOps0_121_chain : Chain 2906 (hostOps0_121 : List (HloOp τ sig (Elt F))) :=
  Chain.cons (stepAt_unary 2906 _ _ _ rfl (by decide)) <|
  Chain.cons (stepAt_unary 2907 _ _ _ rfl (by decide)) <|
  Chain.cons (stepAt_binary 2908 _ _ _ _ rfl (by decide) (by decide)) <|
  Chain.cons (stepAt_unary 2909 _ _ _ rfl (by decide)) <|
  Chain.cons (stepAt_unary 2910 _ _ _ rfl (by decide)) <|
  Chain.cons (stepAt_binary 2911 _ _ _ _ rfl (by decide) (by decide)) <|
  Chain.nil
theorem hostOps0_121_length : (hostOps0_121 : List (HloOp τ sig (Elt F))).length = 6 := rfl

set_option maxHeartbeats 4000000 in
/-- Operations 2884 … 2888 of the program, writing buffers 2912 … 2916. -/
theorem hostOps0_122_chain : Chain 2912 (hostOps0_122 : List (HloOp τ sig (Elt F))) :=
  Chain.cons (stepAt_nullary 2912 _ _ rfl) <|
  Chain.cons (stepAt_unary 2913 _ _ _ rfl (by decide)) <|
  Chain.cons (stepAt_binary 2914 _ _ _ _ rfl (by decide) (by decide)) <|
  Chain.cons (stepAt_nullary 2915 _ _ rfl) <|
  Chain.cons (stepAt_nullary 2916 _ _ rfl) <|
  Chain.nil
theorem hostOps0_122_length : (hostOps0_122 : List (HloOp τ sig (Elt F))).length = 5 := rfl

set_option maxHeartbeats 4000000 in
/-- Operations 2889 … 2894 of the program, writing buffers 2917 … 2922. -/
theorem hostOps0_123_chain : Chain 2917 (hostOps0_123 : List (HloOp τ sig (Elt F))) :=
  Chain.cons (stepAt_unary 2917 _ _ _ rfl (by decide)) <|
  Chain.cons (stepAt_unary 2918 _ _ _ rfl (by decide)) <|
  Chain.cons (stepAt_binary 2919 _ _ _ _ rfl (by decide) (by decide)) <|
  Chain.cons (stepAt_unary 2920 _ _ _ rfl (by decide)) <|
  Chain.cons (stepAt_unary 2921 _ _ _ rfl (by decide)) <|
  Chain.cons (stepAt_binary 2922 _ _ _ _ rfl (by decide) (by decide)) <|
  Chain.nil
theorem hostOps0_123_length : (hostOps0_123 : List (HloOp τ sig (Elt F))).length = 6 := rfl

set_option maxHeartbeats 4000000 in
/-- Operations 2895 … 2897 of the program, writing buffers 2923 … 2925. -/
theorem hostOps0_124_chain : Chain 2923 (hostOps0_124 : List (HloOp τ sig (Elt F))) :=
  Chain.cons (stepAt_unary 2923 _ _ _ rfl (by decide)) <|
  Chain.cons (stepAt_nullary 2924 _ _ rfl) <|
  Chain.cons (stepAt_nullary 2925 _ _ rfl) <|
  Chain.nil
theorem hostOps0_124_length : (hostOps0_124 : List (HloOp τ sig (Elt F))).length = 3 := rfl

set_option maxHeartbeats 4000000 in
/-- Operations 2898 … 2903 of the program, writing buffers 2926 … 2931. -/
theorem hostOps0_125_chain : Chain 2926 (hostOps0_125 : List (HloOp τ sig (Elt F))) :=
  Chain.cons (stepAt_unary 2926 _ _ _ rfl (by decide)) <|
  Chain.cons (stepAt_unary 2927 _ _ _ rfl (by decide)) <|
  Chain.cons (stepAt_binary 2928 _ _ _ _ rfl (by decide) (by decide)) <|
  Chain.cons (stepAt_unary 2929 _ _ _ rfl (by decide)) <|
  Chain.cons (stepAt_unary 2930 _ _ _ rfl (by decide)) <|
  Chain.cons (stepAt_binary 2931 _ _ _ _ rfl (by decide) (by decide)) <|
  Chain.nil
theorem hostOps0_125_length : (hostOps0_125 : List (HloOp τ sig (Elt F))).length = 6 := rfl

set_option maxHeartbeats 4000000 in
/-- Operations 2904 … 2908 of the program, writing buffers 2932 … 2936. -/
theorem hostOps0_126_chain : Chain 2932 (hostOps0_126 : List (HloOp τ sig (Elt F))) :=
  Chain.cons (stepAt_nullary 2932 _ _ rfl) <|
  Chain.cons (stepAt_unary 2933 _ _ _ rfl (by decide)) <|
  Chain.cons (stepAt_binary 2934 _ _ _ _ rfl (by decide) (by decide)) <|
  Chain.cons (stepAt_nullary 2935 _ _ rfl) <|
  Chain.cons (stepAt_nullary 2936 _ _ rfl) <|
  Chain.nil
theorem hostOps0_126_length : (hostOps0_126 : List (HloOp τ sig (Elt F))).length = 5 := rfl

set_option maxHeartbeats 4000000 in
/-- Operations 2909 … 2914 of the program, writing buffers 2937 … 2942. -/
theorem hostOps0_127_chain : Chain 2937 (hostOps0_127 : List (HloOp τ sig (Elt F))) :=
  Chain.cons (stepAt_unary 2937 _ _ _ rfl (by decide)) <|
  Chain.cons (stepAt_unary 2938 _ _ _ rfl (by decide)) <|
  Chain.cons (stepAt_binary 2939 _ _ _ _ rfl (by decide) (by decide)) <|
  Chain.cons (stepAt_unary 2940 _ _ _ rfl (by decide)) <|
  Chain.cons (stepAt_unary 2941 _ _ _ rfl (by decide)) <|
  Chain.cons (stepAt_binary 2942 _ _ _ _ rfl (by decide) (by decide)) <|
  Chain.nil
theorem hostOps0_127_length : (hostOps0_127 : List (HloOp τ sig (Elt F))).length = 6 := rfl

set_option maxHeartbeats 4000000 in
/-- Operations 2915 … 3064 of the program, writing buffers 2943 … 3092. -/
theorem hostOps0_128_chain : Chain 2943 (hostOps0_128 : List (HloOp τ sig (Elt F))) :=
  Chain.cons (stepAt_nullary 2943 _ _ rfl) <|
  Chain.cons (stepAt_unary 2944 _ _ _ rfl (by decide)) <|
  Chain.cons (stepAt_binary 2945 _ _ _ _ rfl (by decide) (by decide)) <|
  Chain.cons (stepAt_nullary 2946 _ _ rfl) <|
  Chain.cons (stepAt_unary 2947 _ _ _ rfl (by decide)) <|
  Chain.cons (stepAt_binary 2948 _ _ _ _ rfl (by decide) (by decide)) <|
  Chain.cons (stepAt_ternary 2949 _ _ _ _ _ rfl (by decide) (by decide) (by decide)) <|
  Chain.cons (stepAt_nullary 2950 _ _ rfl) <|
  Chain.cons (stepAt_unary 2951 _ _ _ rfl (by decide)) <|
  Chain.cons (stepAt_binary 2952 _ _ _ _ rfl (by decide) (by decide)) <|
  Chain.cons (stepAt_nullary 2953 _ _ rfl) <|
  Chain.cons (stepAt_unary 2954 _ _ _ rfl (by decide)) <|
  Chain.cons (stepAt_binary 2955 _ _ _ _ rfl (by decide) (by decide)) <|
  Chain.cons (stepAt_ternary 2956 _ _ _ _ _ rfl (by decide) (by decide) (by decide)) <|
  Chain.cons (stepAt_unary 2957 _ _ _ rfl (by decide)) <|
  Chain.cons (stepAt_unary 2958 _ _ _ rfl (by decide)) <|
  Chain.cons (stepAt_binary 2959 _ _ _ _ rfl (by decide) (by decide)) <|
  Chain.cons (stepAt_binary 2960 _ _ _ _ rfl (by decide) (by decide)) <|
  Chain.cons (stepAt_nullary 2961 _ _ rfl) <|
  Chain.cons (stepAt_unary 2962 _ _ _ rfl (by decide)) <|
  Chain.cons (stepAt_binary 2963 _ _ _ _ rfl (by decide) (by decide)) <|
  Chain.cons (stepAt_nullary 2964 _ _ rfl) <|
  Chain.cons (stepAt_unary 2965 _ _ _ rfl (by decide)) <|
  Chain.cons (stepAt_binary 2966 _ _ _ _ rfl (by decide) (by decide)) <|
  Chain.cons (stepAt_ternary 2967 _ _ _ _ _ rfl (by decide) (by decide) (by decide)) <|
  Chain.cons (stepAt_nullary 2968 _ _ rfl) <|
  Chain.cons (stepAt_unary 2969 _ _ _ rfl (by decide)) <|
  Chain.cons (stepAt_binary 2970 _ _ _ _ rfl (by decide) (by decide)) <|
  Chain.cons (stepAt_nullary 2971 _ _ rfl) <|
  Chain.cons (stepAt_unary 2972 _ _ _ rfl (by decide)) <|
  Chain.cons (stepAt_binary 2973 _ _ _ _ rfl (by decide) (by decide)) <|
  Chain.cons (stepAt_ternary 2974 _ _ _ _ _ rfl (by decide) (by decide) (by decide)) <|
  Chain.cons (stepAt_unary 2975 _ _ _ rfl (by decide)) <|
  Chain.cons (stepAt_unary 2976 _ _ _ rfl (by decide)) <|
  Chain.cons (stepAt_binary 2977 _ _ _ _ rfl (by decide) (by decide)) <|
  Chain.cons (stepAt_binary 2978 _ _ _ _ rfl (by decide) (by decide)) <|
  Chain.cons (stepAt_nullary 2979 _ _ rfl) <|
  Chain.cons (stepAt_unary 2980 _ _ _ rfl (by decide)) <|
  Chain.cons (stepAt_binary 2981 _ _ _ _ rfl (by decide) (by decide)) <|
  Chain.cons (stepAt_nullary 2982 _ _ rfl) <|
  Chain.cons (stepAt_unary 2983 _ _ _ rfl (by decide)) <|
  Chain.cons (stepAt_binary 2984 _ _ _ _ rfl (by decide) (by decide)) <|
  Chain.cons (stepAt_ternary 2985 _ _ _ _ _ rfl (by decide) (by decide) (by decide)) <|
  Chain.cons (stepAt_nullary 2986 _ _ rfl) <|
  Chain.cons (stepAt_unary 2987 _ _ _ rfl (by decide)) <|
  Chain.cons (stepAt_binary 2988 _ _ _ _ rfl (by decide) (by decide)) <|
  Chain.cons (stepAt_nullary 2989 _ _ rfl) <|
  Chain.cons (stepAt_unary 2990 _ _ _ rfl (by decide)) <|
  Chain.cons (stepAt_binary 2991 _ _ _ _ rfl (by decide) (by decide)) <|
  Chain.cons (stepAt_ternary 2992 _ _ _ _ _ rfl (by decide) (by decide) (by decide)) <|
  Chain.cons (stepAt_unary 2993 _ _ _ rfl (by decide)) <|
  Chain.cons (stepAt_unary 2994 _ _ _ rfl (by decide)) <|
  Chain.cons (stepAt_binary 2995 _ _ _ _ rfl (by decide) (by decide)) <|
  Chain.cons (stepAt_binary 2996 _ _ _ _ rfl (by decide) (by decide)) <|
  Chain.cons (stepAt_nullary 2997 _ _ rfl) <|
  Chain.cons (stepAt_unary 2998 _ _ _ rfl (by decide)) <|
  Chain.cons (stepAt_binary 2999 _ _ _ _ rfl (by decide) (by decide)) <|
  Chain.cons (stepAt_nullary 3000 _ _ rfl) <|
  Chain.cons (stepAt_unary 3001 _ _ _ rfl (by decide)) <|
  Chain.cons (stepAt_binary 3002 _ _ _ _ rfl (by decide) (by decide)) <|
  Chain.cons (stepAt_ternary 3003 _ _ _ _ _ rfl (by decide) (by decide) (by decide)) <|
  Chain.cons (stepAt_nullary 3004 _ _ rfl) <|
  Chain.cons (stepAt_unary 3005 _ _ _ rfl (by decide)) <|
  Chain.cons (stepAt_binary 3006 _ _ _ _ rfl (by decide) (by decide)) <|
  Chain.cons (stepAt_nullary 3007 _ _ rfl) <|
  Chain.cons (stepAt_unary 3008 _ _ _ rfl (by decide)) <|
  Chain.cons (stepAt_binary 3009 _ _ _ _ rfl (by decide) (by decide)) <|
  Chain.cons (stepAt_ternary 3010 _ _ _ _ _ rfl (by decide) (by decide) (by decide)) <|
  Chain.cons (stepAt_unary 3011 _ _ _ rfl (by decide)) <|
  Chain.cons (stepAt_unary 3012 _ _ _ rfl (by decide)) <|
  Chain.cons (stepAt_binary 3013 _ _ _ _ rfl (by decide) (by decide)) <|
  Chain.cons (stepAt_binary 3014 _ _ _ _ rfl (by decide) (by decide)) <|
  Chain.cons (stepAt_nullary 3015 _ _ rfl) <|
  Chain.cons (stepAt_unary 3016 _ _ _ rfl (by decide)) <|
  Chain.cons (stepAt_binary 3017 _ _ _ _ rfl (by decide) (by decide)) <|
  Chain.cons (stepAt_unary 3018 _ _ _ rfl (by decide)) <|
  Chain.cons (stepAt_unary 3019 _ _ _ rfl (by decide)) <|
  Chain.cons (stepAt_binary 3020 _ _ _ _ rfl (by decide) (by decide)) <|
  Chain.cons (stepAt_nullary 3021 _ _ rfl) <|
  Chain.cons (stepAt_unary 3022 _ _ _ rfl (by decide)) <|
  Chain.cons (stepAt_binary 3023 _ _ _ _ rfl (by decide) (by decide)) <|
  Chain.cons (stepAt_unary 3024 _ _ _ rfl (by decide)) <|
  Chain.cons (stepAt_unary 3025 _ _ _ rfl (by decide)) <|
  Chain.cons (stepAt_binary 3026 _ _ _ _ rfl (by decide) (by decide)) <|
  Chain.cons (stepAt_unary 3027 _ _ _ rfl (by decide)) <|
  Chain.cons (stepAt_unary 3028 _ _ _ rfl (by decide)) <|
  Chain.cons (stepAt_binary 3029 _ _ _ _ rfl (by decide) (by decide)) <|
  Chain.cons (stepAt_nullary 3030 _ _ rfl) <|
  Chain.cons (stepAt_unary 3031 _ _ _ rfl (by decide)) <|
  Chain.cons (stepAt_binary 3032 _ _ _ _ rfl (by decide) (by decide)) <|
  Chain.cons (stepAt_unary 3033 _ _ _ rfl (by decide)) <|
  Chain.cons (stepAt_unary 3034 _ _ _ rfl (by decide)) <|
  Chain.cons (stepAt_binary 3035 _ _ _ _ rfl (by decide) (by decide)) <|
  Chain.cons (stepAt_binary 3036 _ _ _ _ rfl (by decide) (by decide)) <|
  Chain.cons (stepAt_nullary 3037 _ _ rfl) <|
  Chain.cons (stepAt_unary 3038 _ _ _ rfl (by decide)) <|
  Chain.cons (stepAt_binary 3039 _ _ _ _ rfl (by decide) (by decide)) <|
  Chain.cons (stepAt_unary 3040 _ _ _ rfl (by decide)) <|
  Chain.cons (stepAt_unary 3041 _ _ _ rfl (by decide)) <|
  Chain.cons (stepAt_binary 3042 _ _ _ _ rfl (by decide) (by decide)) <|
  Chain.cons (stepAt_unary 3043 _ _ _ rfl (by decide)) <|
  Chain.cons (stepAt_unary 3044 _ _ _ rfl (by decide)) <|
  Chain.cons (stepAt_binary 3045 _ _ _ _ rfl (by decide) (by decide)) <|
  Chain.cons (stepAt_binary 3046 _ _ _ _ rfl (by decide) (by decide)) <|
  Chain.cons (stepAt_unary 3047 _ _ _ rfl (by decide)) <|
  Chain.cons (stepAt_unary 3048 _ _ _ rfl (by decide)) <|
  Chain.cons (stepAt_binary 3049 _ _ _ _ rfl (by decide) (by decide)) <|
  Chain.cons (stepAt_unary 3050 _ _ _ rfl (by decide)) <|
  Chain.cons (stepAt_unary 3051 _ _ _ rfl (by decide)) <|
  Chain.cons (stepAt_binary 3052 _ _ _ _ rfl (by decide) (by decide)) <|
  Chain.cons (stepAt_binary 3053 _ _ _ _ rfl (by decide) (by decide)) <|
  Chain.cons (stepAt_unary 3054 _ _ _ rfl (by decide)) <|
  Chain.cons (stepAt_nullary 3055 _ _ rfl) <|
  Chain.cons (stepAt_unary 3056 _ _ _ rfl (by decide)) <|
  Chain.cons (stepAt_binary 3057 _ _ _ _ rfl (by decide) (by decide)) <|
  Chain.cons (stepAt_nullary 3058 _ _ rfl) <|
  Chain.cons (stepAt_unary 3059 _ _ _ rfl (by decide)) <|
  Chain.cons (stepAt_binary 3060 _ _ _ _ rfl (by decide) (by decide)) <|
  Chain.cons (stepAt_ternary 3061 _ _ _ _ _ rfl (by decide) (by decide) (by decide)) <|
  Chain.cons (stepAt_unary 3062 _ _ _ rfl (by decide)) <|
  Chain.cons (stepAt_binary 3063 _ _ _ _ rfl (by decide) (by decide)) <|
  Chain.cons (stepAt_unary 3064 _ _ _ rfl (by decide)) <|
  Chain.cons (stepAt_reshape 3065 _ _ _ _ rfl (by decide)) <|
  Chain.cons (stepAt_nullary 3066 _ _ rfl) <|
  Chain.cons (stepAt_unary 3067 _ _ _ rfl (by decide)) <|
  Chain.cons (stepAt_binary 3068 _ _ _ _ rfl (by decide) (by decide)) <|
  Chain.cons (stepAt_nullary 3069 _ _ rfl) <|
  Chain.cons (stepAt_unary 3070 _ _ _ rfl (by decide)) <|
  Chain.cons (stepAt_binary 3071 _ _ _ _ rfl (by decide) (by decide)) <|
  Chain.cons (stepAt_nullary 3072 _ _ rfl) <|
  Chain.cons (stepAt_unary 3073 _ _ _ rfl (by decide)) <|
  Chain.cons (stepAt_binary 3074 _ _ _ _ rfl (by decide) (by decide)) <|
  Chain.cons (stepAt_unary 3075 _ _ _ rfl (by decide)) <|
  Chain.cons (stepAt_reshape 3076 _ _ _ _ rfl (by decide)) <|
  Chain.cons (stepAt_nullary 3077 _ _ rfl) <|
  Chain.cons (stepAt_unary 3078 _ _ _ rfl (by decide)) <|
  Chain.cons (stepAt_binary 3079 _ _ _ _ rfl (by decide) (by decide)) <|
  Chain.cons (stepAt_nullary 3080 _ _ rfl) <|
  Chain.cons (stepAt_unary 3081 _ _ _ rfl (by decide)) <|
  Chain.cons (stepAt_binary 3082 _ _ _ _ rfl (by decide) (by decide)) <|
  Chain.cons (stepAt_nullary 3083 _ _ rfl) <|
  Chain.cons (stepAt_unary 3084 _ _ _ rfl (by decide)) <|
  Chain.cons (stepAt_binary 3085 _ _ _ _ rfl (by decide) (by decide)) <|
  Chain.cons (stepAt_unary 3086 _ _ _ rfl (by decide)) <|
  Chain.cons (stepAt_unary 3087 _ _ _ rfl (by decide)) <|
  Chain.cons (stepAt_binary 3088 _ _ _ _ rfl (by decide) (by decide)) <|
  Chain.cons (stepAt_binary 3089 _ _ _ _ rfl (by decide) (by decide)) <|
  Chain.cons (stepAt_unary 3090 _ _ _ rfl (by decide)) <|
  Chain.cons (stepAt_nullary 3091 _ _ rfl) <|
  Chain.cons (stepAt_nullary 3092 _ _ rfl) <|
  Chain.nil
theorem hostOps0_128_length : (hostOps0_128 : List (HloOp τ sig (Elt F))).length = 150 := rfl

set_option maxHeartbeats 4000000 in
/-- Operations 3065 … 3070 of the program, writing buffers 3093 … 3098. -/
theorem hostOps0_129_chain : Chain 3093 (hostOps0_129 : List (HloOp τ sig (Elt F))) :=
  Chain.cons (stepAt_unary 3093 _ _ _ rfl (by decide)) <|
  Chain.cons (stepAt_unary 3094 _ _ _ rfl (by decide)) <|
  Chain.cons (stepAt_binary 3095 _ _ _ _ rfl (by decide) (by decide)) <|
  Chain.cons (stepAt_unary 3096 _ _ _ rfl (by decide)) <|
  Chain.cons (stepAt_unary 3097 _ _ _ rfl (by decide)) <|
  Chain.cons (stepAt_binary 3098 _ _ _ _ rfl (by decide) (by decide)) <|
  Chain.nil
theorem hostOps0_129_length : (hostOps0_129 : List (HloOp τ sig (Elt F))).length = 6 := rfl

set_option maxHeartbeats 4000000 in
/-- Operations 3071 … 3075 of the program, writing buffers 3099 … 3103. -/
theorem hostOps0_130_chain : Chain 3099 (hostOps0_130 : List (HloOp τ sig (Elt F))) :=
  Chain.cons (stepAt_nullary 3099 _ _ rfl) <|
  Chain.cons (stepAt_unary 3100 _ _ _ rfl (by decide)) <|
  Chain.cons (stepAt_binary 3101 _ _ _ _ rfl (by decide) (by decide)) <|
  Chain.cons (stepAt_nullary 3102 _ _ rfl) <|
  Chain.cons (stepAt_nullary 3103 _ _ rfl) <|
  Chain.nil
theorem hostOps0_130_length : (hostOps0_130 : List (HloOp τ sig (Elt F))).length = 5 := rfl

set_option maxHeartbeats 4000000 in
/-- Operations 3076 … 3081 of the program, writing buffers 3104 … 3109. -/
theorem hostOps0_131_chain : Chain 3104 (hostOps0_131 : List (HloOp τ sig (Elt F))) :=
  Chain.cons (stepAt_unary 3104 _ _ _ rfl (by decide)) <|
  Chain.cons (stepAt_unary 3105 _ _ _ rfl (by decide)) <|
  Chain.cons (stepAt_binary 3106 _ _ _ _ rfl (by decide) (by decide)) <|
  Chain.cons (stepAt_unary 3107 _ _ _ rfl (by decide)) <|
  Chain.cons (stepAt_unary 3108 _ _ _ rfl (by decide)) <|
  Chain.cons (stepAt_binary 3109 _ _ _ _ rfl (by decide) (by decide)) <|
  Chain.nil
theorem hostOps0_131_length : (hostOps0_131 : List (HloOp τ sig (Elt F))).length = 6 := rfl

set_option maxHeartbeats 4000000 in
/-- Operations 3082 … 3084 of the program, writing buffers 3110 … 3112. -/
theorem hostOps0_132_chain : Chain 3110 (hostOps0_132 : List (HloOp τ sig (Elt F))) :=
  Chain.cons (stepAt_unary 3110 _ _ _ rfl (by decide)) <|
  Chain.cons (stepAt_nullary 3111 _ _ rfl) <|
  Chain.cons (stepAt_nullary 3112 _ _ rfl) <|
  Chain.nil
theorem hostOps0_132_length : (hostOps0_132 : List (HloOp τ sig (Elt F))).length = 3 := rfl

set_option maxHeartbeats 4000000 in
/-- Operations 3085 … 3090 of the program, writing buffers 3113 … 3118. -/
theorem hostOps0_133_chain : Chain 3113 (hostOps0_133 : List (HloOp τ sig (Elt F))) :=
  Chain.cons (stepAt_unary 3113 _ _ _ rfl (by decide)) <|
  Chain.cons (stepAt_unary 3114 _ _ _ rfl (by decide)) <|
  Chain.cons (stepAt_binary 3115 _ _ _ _ rfl (by decide) (by decide)) <|
  Chain.cons (stepAt_unary 3116 _ _ _ rfl (by decide)) <|
  Chain.cons (stepAt_unary 3117 _ _ _ rfl (by decide)) <|
  Chain.cons (stepAt_binary 3118 _ _ _ _ rfl (by decide) (by decide)) <|
  Chain.nil
theorem hostOps0_133_length : (hostOps0_133 : List (HloOp τ sig (Elt F))).length = 6 := rfl

set_option maxHeartbeats 4000000 in
/-- Operations 3091 … 3095 of the program, writing buffers 3119 … 3123. -/
theorem hostOps0_134_chain : Chain 3119 (hostOps0_134 : List (HloOp τ sig (Elt F))) :=
  Chain.cons (stepAt_nullary 3119 _ _ rfl) <|
  Chain.cons (stepAt_unary 3120 _ _ _ rfl (by decide)) <|
  Chain.cons (stepAt_binary 3121 _ _ _ _ rfl (by decide) (by decide)) <|
  Chain.cons (stepAt_nullary 3122 _ _ rfl) <|
  Chain.cons (stepAt_nullary 3123 _ _ rfl) <|
  Chain.nil
theorem hostOps0_134_length : (hostOps0_134 : List (HloOp τ sig (Elt F))).length = 5 := rfl

set_option maxHeartbeats 4000000 in
/-- Operations 3096 … 3101 of the program, writing buffers 3124 … 3129. -/
theorem hostOps0_135_chain : Chain 3124 (hostOps0_135 : List (HloOp τ sig (Elt F))) :=
  Chain.cons (stepAt_unary 3124 _ _ _ rfl (by decide)) <|
  Chain.cons (stepAt_unary 3125 _ _ _ rfl (by decide)) <|
  Chain.cons (stepAt_binary 3126 _ _ _ _ rfl (by decide) (by decide)) <|
  Chain.cons (stepAt_unary 3127 _ _ _ rfl (by decide)) <|
  Chain.cons (stepAt_unary 3128 _ _ _ rfl (by decide)) <|
  Chain.cons (stepAt_binary 3129 _ _ _ _ rfl (by decide) (by decide)) <|
  Chain.nil
theorem hostOps0_135_length : (hostOps0_135 : List (HloOp τ sig (Elt F))).length = 6 := rfl

set_option maxHeartbeats 4000000 in
/-- Operations 3102 … 3251 of the program, writing buffers 3130 … 3279. -/
theorem hostOps0_136_chain : Chain 3130 (hostOps0_136 : List (HloOp τ sig (Elt F))) :=
  Chain.cons (stepAt_nullary 3130 _ _ rfl) <|
  Chain.cons (stepAt_unary 3131 _ _ _ rfl (by decide)) <|
  Chain.cons (stepAt_binary 3132 _ _ _ _ rfl (by decide) (by decide)) <|
  Chain.cons (stepAt_nullary 3133 _ _ rfl) <|
  Chain.cons (stepAt_unary 3134 _ _ _ rfl (by decide)) <|
  Chain.cons (stepAt_binary 3135 _ _ _ _ rfl (by decide) (by decide)) <|
  Chain.cons (stepAt_ternary 3136 _ _ _ _ _ rfl (by decide) (by decide) (by decide)) <|
  Chain.cons (stepAt_nullary 3137 _ _ rfl) <|
  Chain.cons (stepAt_unary 3138 _ _ _ rfl (by decide)) <|
  Chain.cons (stepAt_binary 3139 _ _ _ _ rfl (by decide) (by decide)) <|
  Chain.cons (stepAt_nullary 3140 _ _ rfl) <|
  Chain.cons (stepAt_unary 3141 _ _ _ rfl (by decide)) <|
  Chain.cons (stepAt_binary 3142 _ _ _ _ rfl (by decide) (by decide)) <|
  Chain.cons (stepAt_ternary 3143 _ _ _ _ _ rfl (by decide) (by decide) (by decide)) <|
  Chain.cons (stepAt_unary 3144 _ _ _ rfl (by decide)) <|
  Chain.cons (stepAt_unary 3145 _ _ _ rfl (by decide)) <|
  Chain.cons (stepAt_binary 3146 _ _ _ _ rfl (by decide) (by decide)) <|
  Chain.cons (stepAt_binary 3147 _ _ _ _ rfl (by decide) (by decide)) <|
  Chain.cons (stepAt_nullary 3148 _ _ rfl) <|
  Chain.cons (stepAt_unary 3149 _ _ _ rfl (by decide)) <|
  Chain.cons (stepAt_binary 3150 _ _ _ _ rfl (by decide) (by decide)) <|
  Chain.cons (stepAt_nullary 3151 _ _ rfl) <|
  Chain.cons (stepAt_unary 3152 _ _ _ rfl (by decide)) <|
  Chain.cons (stepAt_binary 3153 _ _ _ _ rfl (by decide) (by decide)) <|
  Chain.cons (stepAt_ternary 3154 _ _ _ _ _ rfl (by decide) (by decide) (by decide)) <|
  Chain.cons (stepAt_nullary 3155 _ _ rfl) <|
  Chain.cons (stepAt_unary 3156 _ _ _ rfl (by decide)) <|
  Chain.cons (stepAt_binary 3157 _ _ _ _ rfl (by decide) (by decide)) <|
  Chain.cons (stepAt_nullary 3158 _ _ rfl) <|
  Chain.cons (stepAt_unary 3159 _ _ _ rfl (by decide)) <|
  Chain.cons (stepAt_binary 3160 _ _ _ _ rfl (by decide) (by decide)) <|
  Chain.cons (stepAt_ternary 3161 _ _ _ _ _ rfl (by decide) (by decide) (by decide)) <|
  Chain.cons (stepAt_unary 3162 _ _ _ rfl (by decide)) <|
  Chain.cons (stepAt_unary 3163 _ _ _ rfl (by decide)) <|
  Chain.cons (stepAt_binary 3164 _ _ _ _ rfl (by decide) (by decide)) <|
  Chain.cons (stepAt_binary 3165 _ _ _ _ rfl (by decide) (by decide)) <|
  Chain.cons (stepAt_nullary 3166 _ _ rfl) <|
  Chain.cons (stepAt_unary 3167 _ _ _ rfl (by decide)) <|
  Chain.cons (stepAt_binary 3168 _ _ _ _ rfl (by decide) (by decide)) <|
  Chain.cons (stepAt_nullary 3169 _ _ rfl) <|
  Chain.cons (stepAt_unary 3170 _ _ _ rfl (by decide)) <|
  Chain.cons (stepAt_binary 3171 _ _ _ _ rfl (by decide) (by decide)) <|
  Chain.cons (stepAt_ternary 3172 _ _ _ _ _ rfl (by decide) (by decide) (by decide)) <|
  Chain.cons (stepAt_nullary 3173 _ _ rfl) <|
  Chain.cons (stepAt_unary 3174 _ _ _ rfl (by decide)) <|
  Chain.cons (stepAt_binary 3175 _ _ _ _ rfl (by decide) (by decide)) <|
  Chain.cons (stepAt_nullary 3176 _ _ rfl) <|
  Chain.cons (stepAt_unary 3177 _ _ _ rfl (by decide)) <|
  Chain.cons (stepAt_binary 3178 _ _ _ _ rfl (by decide) (by decide)) <|
  Chain.cons (stepAt_ternary 3179 _ _ _ _ _ rfl (by decide) (by decide) (by decide)) <|
  Chain.cons (stepAt_unary 3180 _ _ _ rfl (by decide)) <|
  Chain.cons (stepAt_unary 3181 _ _ _ rfl (by decide)) <|
  Chain.cons (stepAt_binary 3182 _ _ _ _ rfl (by decide) (by decide)) <|
  Chain.cons (stepAt_binary 3183 _ _ _ _ rfl (by decide) (by decide)) <|
  Chain.cons (stepAt_nullary 3184 _ _ rfl) <|
  Chain.cons (stepAt_unary 3185 _ _ _ rfl (by decide)) <|
  Chain.cons (stepAt_binary 3186 _ _ _ _ rfl (by decide) (by decide)) <|
  Chain.cons (stepAt_nullary 3187 _ _ rfl) <|
  Chain.cons (stepAt_unary 3188 _ _ _ rfl (by decide)) <|
  Chain.cons (stepAt_binary 3189 _ _ _ _ rfl (by decide) (by decide)) <|
  Chain.cons (stepAt_ternary 3190 _ _ _ _ _ rfl (by decide) (by decide) (by decide)) <|
  Chain.cons (stepAt_nullary 3191 _ _ rfl) <|
  Chain.cons (stepAt_unary 3192 _ _ _ rfl (by decide)) <|
  Chain.cons (stepAt_binary 3193 _ _ _ _ rfl (by decide) (by decide)) <|
  Chain.cons (stepAt_nullary 3194 _ _ rfl) <|
  Chain.cons (stepAt_unary 3195 _ _ _ rfl (by decide)) <|
  Chain.cons (stepAt_binary 3196 _ _ _ _ rfl (by decide) (by decide)) <|
  Chain.cons (stepAt_ternary 3197 _ _ _ _ _ rfl (by decide) (by decide) (by decide)) <|
  Chain.cons (stepAt_unary 3198 _ _ _ rfl (by decide)) <|
  Chain.cons (stepAt_unary 3199 _ _ _ rfl (by decide)) <|
  Chain.cons (stepAt_binary 3200 _ _ _ _ rfl (by decide) (by decide)) <|
  Chain.cons (stepAt_binary 3201 _ _ _ _ rfl (by decide) (by decide)) <|
  Chain.cons (stepAt_nullary 3202 _ _ rfl) <|
  Chain.cons (stepAt_unary 3203 _ _ _ rfl (by decide)) <|
  Chain.cons (stepAt_binary 3204 _ _ _ _ rfl (by decide) (by decide)) <|
  Chain.cons (stepAt_unary 3205 _ _ _ rfl (by decide)) <|
  Chain.cons (stepAt_unary 3206 _ _ _ rfl (by decide)) <|
  Chain.cons (stepAt_binary 3207 _ _ _ _ rfl (by decide) (by decide)) <|
  Chain.cons (stepAt_nullary 3208 _ _ rfl) <|
  Chain.cons (stepAt_unary 3209 _ _ _ rfl (by decide)) <|
  Chain.cons (stepAt_binary 3210 _ _ _ _ rfl (by decide) (by decide)) <|
  Chain.cons (stepAt_unary 3211 _ _ _ rfl (by decide)) <|
  Chain.cons (stepAt_unary 3212 _ _ _ rfl (by decide)) <|
  Chain.cons (stepAt_binary 3213 _ _ _ _ rfl (by decide) (by decide)) <|
  Chain.cons (stepAt_unary 3214 _ _ _ rfl (by decide)) <|
  Chain.cons (stepAt_unary 3215 _ _ _ rfl (by decide)) <|
  Chain.cons (stepAt_binary 3216 _ _ _ _ rfl (by decide) (by decide)) <|
  Chain.cons (stepAt_nullary 3217 _ _ rfl) <|
  Chain.cons (stepAt_unary 3218 _ _ _ rfl (by decide)) <|
  Chain.cons (stepAt_binary 3219 _ _ _ _ rfl (by decide) (by decide)) <|
  Chain.cons (stepAt_unary 3220 _ _ _ rfl (by decide)) <|
  Chain.cons (stepAt_unary 3221 _ _ _ rfl (by decide)) <|
  Chain.cons (stepAt_binary 3222 _ _ _ _ rfl (by decide) (by decide)) <|
  Chain.cons (stepAt_binary 3223 _ _ _ _ rfl (by decide) (by decide)) <|
  Chain.cons (stepAt_nullary 3224 _ _ rfl) <|
  Chain.cons (stepAt_unary 3225 _ _ _ rfl (by decide)) <|
  Chain.cons (stepAt_binary 3226 _ _ _ _ rfl (by decide) (by decide)) <|
  Chain.cons (stepAt_unary 3227 _ _ _ rfl (by decide)) <|
  Chain.cons (stepAt_unary 3228 _ _ _ rfl (by decide)) <|
  Chain.cons (stepAt_binary 3229 _ _ _ _ rfl (by decide) (by decide)) <|
  Chain.cons (stepAt_unary 3230 _ _ _ rfl (by decide)) <|
  Chain.cons (stepAt_unary 3231 _ _ _ rfl (by decide)) <|
  Chain.cons (stepAt_binary 3232 _ _ _ _ rfl (by decide) (by decide)) <|
  Chain.cons (stepAt_binary 3233 _ _ _ _ rfl (by decide) (by decide)) <|
  Chain.cons (stepAt_unary 3234 _ _ _ rfl (by decide)) <|
  Chain.cons (stepAt_unary 3235 _ _ _ rfl (by decide)) <|
  Chain.cons (stepAt_binary 3236 _ _ _ _ rfl (by decide) (by decide)) <|
  Chain.cons (stepAt_unary 3237 _ _ _ rfl (by decide)) <|
  Chain.cons (stepAt_unary 3238 _ _ _ rfl (by decide)) <|
  Chain.cons (stepAt_binary 3239 _ _ _ _ rfl (by decide) (by decide)) <|
  Chain.cons (stepAt_binary 3240 _ _ _ _ rfl (by decide) (by decide)) <|
  Chain.cons (stepAt_unary 3241 _ _ _ rfl (by decide)) <|
  Chain.cons (stepAt_nullary 3242 _ _ rfl) <|
  Chain.cons (stepAt_unary 3243 _ _ _ rfl (by decide)) <|
  Chain.cons (stepAt_binary 3244 _ _ _ _ rfl (by decide) (by decide)) <|
  Chain.cons (stepAt_nullary 3245 _ _ rfl) <|
  Chain.cons (stepAt_unary 3246 _ _ _ rfl (by decide)) <|
  Chain.cons (stepAt_binary 3247 _ _ _ _ rfl (by decide) (by decide)) <|
  Chain.cons (stepAt_ternary 3248 _ _ _ _ _ rfl (by decide) (by decide) (by decide)) <|
  Chain.cons (stepAt_unary 3249 _ _ _ rfl (by decide)) <|
  Chain.cons (stepAt_binary 3250 _ _ _ _ rfl (by decide) (by decide)) <|
  Chain.cons (stepAt_unary 3251 _ _ _ rfl (by decide)) <|
  Chain.cons (stepAt_reshape 3252 _ _ _ _ rfl (by decide)) <|
  Chain.cons (stepAt_nullary 3253 _ _ rfl) <|
  Chain.cons (stepAt_unary 3254 _ _ _ rfl (by decide)) <|
  Chain.cons (stepAt_binary 3255 _ _ _ _ rfl (by decide) (by decide)) <|
  Chain.cons (stepAt_nullary 3256 _ _ rfl) <|
  Chain.cons (stepAt_unary 3257 _ _ _ rfl (by decide)) <|
  Chain.cons (stepAt_binary 3258 _ _ _ _ rfl (by decide) (by decide)) <|
  Chain.cons (stepAt_nullary 3259 _ _ rfl) <|
  Chain.cons (stepAt_unary 3260 _ _ _ rfl (by decide)) <|
  Chain.cons (stepAt_binary 3261 _ _ _ _ rfl (by decide) (by decide)) <|
  Chain.cons (stepAt_unary 3262 _ _ _ rfl (by decide)) <|
  Chain.cons (stepAt_reshape 3263 _ _ _ _ rfl (by decide)) <|
  Chain.cons (stepAt_nullary 3264 _ _ rfl) <|
  Chain.cons (stepAt_unary 3265 _ _ _ rfl (by decide)) <|
  Chain.cons (stepAt_binary 3266 _ _ _ _ rfl (by decide) (by decide)) <|
  Chain.cons (stepAt_nullary 3267 _ _ rfl) <|
  Chain.cons (stepAt_unary 3268 _ _ _ rfl (by decide)) <|
  Chain.cons (stepAt_binary 3269 _ _ _ _ rfl (by decide) (by decide)) <|
  Chain.cons (stepAt_nullary 3270 _ _ rfl) <|
  Chain.cons (stepAt_unary 3271 _ _ _ rfl (by decide)) <|
  Chain.cons (stepAt_binary 3272 _ _ _ _ rfl (by decide) (by decide)) <|
  Chain.cons (stepAt_unary 3273 _ _ _ rfl (by decide)) <|
  Chain.cons (stepAt_unary 3274 _ _ _ rfl (by decide)) <|
  Chain.cons (stepAt_binary 3275 _ _ _ _ rfl (by decide) (by decide)) <|
  Chain.cons (stepAt_binary 3276 _ _ _ _ rfl (by decide) (by decide)) <|
  Chain.cons (stepAt_unary 3277 _ _ _ rfl (by decide)) <|
  Chain.cons (stepAt_nullary 3278 _ _ rfl) <|
  Chain.cons (stepAt_nullary 3279 _ _ rfl) <|
  Chain.nil
theorem hostOps0_136_length : (hostOps0_136 : List (HloOp τ sig (Elt F))).length = 150 := rfl

set_option maxHeartbeats 4000000 in
/-- Operations 3252 … 3257 of the program, writing buffers 3280 … 3285. -/
theorem hostOps0_137_chain : Chain 3280 (hostOps0_137 : List (HloOp τ sig (Elt F))) :=
  Chain.cons (stepAt_unary 3280 _ _ _ rfl (by decide)) <|
  Chain.cons (stepAt_unary 3281 _ _ _ rfl (by decide)) <|
  Chain.cons (stepAt_binary 3282 _ _ _ _ rfl (by decide) (by decide)) <|
  Chain.cons (stepAt_unary 3283 _ _ _ rfl (by decide)) <|
  Chain.cons (stepAt_unary 3284 _ _ _ rfl (by decide)) <|
  Chain.cons (stepAt_binary 3285 _ _ _ _ rfl (by decide) (by decide)) <|
  Chain.nil
theorem hostOps0_137_length : (hostOps0_137 : List (HloOp τ sig (Elt F))).length = 6 := rfl

set_option maxHeartbeats 4000000 in
/-- Operations 3258 … 3262 of the program, writing buffers 3286 … 3290. -/
theorem hostOps0_138_chain : Chain 3286 (hostOps0_138 : List (HloOp τ sig (Elt F))) :=
  Chain.cons (stepAt_nullary 3286 _ _ rfl) <|
  Chain.cons (stepAt_unary 3287 _ _ _ rfl (by decide)) <|
  Chain.cons (stepAt_binary 3288 _ _ _ _ rfl (by decide) (by decide)) <|
  Chain.cons (stepAt_nullary 3289 _ _ rfl) <|
  Chain.cons (stepAt_nullary 3290 _ _ rfl) <|
  Chain.nil
theorem hostOps0_138_length : (hostOps0_138 : List (HloOp τ sig (Elt F))).length = 5 := rfl

set_option maxHeartbeats 4000000 in
/-- Operations 3263 … 3268 of the program, writing buffers 3291 … 3296. -/
theorem hostOps0_139_chain : Chain 3291 (hostOps0_139 : List (HloOp τ sig (Elt F))) :=
  Chain.cons (stepAt_unary 3291 _ _ _ rfl (by decide)) <|
  Chain.cons (stepAt_unary 3292 _ _ _ rfl (by decide)) <|
  Chain.cons (stepAt_binary 3293 _ _ _ _ rfl (by decide) (by decide)) <|
  Chain.cons (stepAt_unary 3294 _ _ _ rfl (by decide)) <|
  Chain.cons (stepAt_unary 3295 _ _ _ rfl (by decide)) <|
  Chain.cons (stepAt_binary 3296 _ _ _ _ rfl (by decide) (by decide)) <|
  Chain.nil
theorem hostOps0_139_length : (hostOps0_139 : List (HloOp τ sig (Elt F))).length = 6 := rfl

set_option maxHeartbeats 4000000 in
/-- Operations 3269 … 3271 of the program, writing buffers 3297 … 3299. -/
theorem hostOps0_140_chain : Chain 3297 (hostOps0_140 : List (HloOp τ sig (Elt F))) :=
  Chain.cons (stepAt_unary 3297 _ _ _ rfl (by decide)) <|
  Chain.cons (stepAt_nullary 3298 _ _ rfl) <|
  Chain.cons (stepAt_nullary 3299 _ _ rfl) <|
  Chain.nil
theorem hostOps0_140_length : (hostOps0_140 : List (HloOp τ sig (Elt F))).length = 3 := rfl

set_option maxHeartbeats 4000000 in
/-- Operations 3272 … 3277 of the program, writing buffers 3300 … 3305. -/
theorem hostOps0_141_chain : Chain 3300 (hostOps0_141 : List (HloOp τ sig (Elt F))) :=
  Chain.cons (stepAt_unary 3300 _ _ _ rfl (by decide)) <|
  Chain.cons (stepAt_unary 3301 _ _ _ rfl (by decide)) <|
  Chain.cons (stepAt_binary 3302 _ _ _ _ rfl (by decide) (by decide)) <|
  Chain.cons (stepAt_unary 3303 _ _ _ rfl (by decide)) <|
  Chain.cons (stepAt_unary 3304 _ _ _ rfl (by decide)) <|
  Chain.cons (stepAt_binary 3305 _ _ _ _ rfl (by decide) (by decide)) <|
  Chain.nil
theorem hostOps0_141_length : (hostOps0_141 : List (HloOp τ sig (Elt F))).length = 6 := rfl

set_option maxHeartbeats 4000000 in
/-- Operations 3278 … 3282 of the program, writing buffers 3306 … 3310. -/
theorem hostOps0_142_chain : Chain 3306 (hostOps0_142 : List (HloOp τ sig (Elt F))) :=
  Chain.cons (stepAt_nullary 3306 _ _ rfl) <|
  Chain.cons (stepAt_unary 3307 _ _ _ rfl (by decide)) <|
  Chain.cons (stepAt_binary 3308 _ _ _ _ rfl (by decide) (by decide)) <|
  Chain.cons (stepAt_nullary 3309 _ _ rfl) <|
  Chain.cons (stepAt_nullary 3310 _ _ rfl) <|
  Chain.nil
theorem hostOps0_142_length : (hostOps0_142 : List (HloOp τ sig (Elt F))).length = 5 := rfl

set_option maxHeartbeats 4000000 in
/-- Operations 3283 … 3288 of the program, writing buffers 3311 … 3316. -/
theorem hostOps0_143_chain : Chain 3311 (hostOps0_143 : List (HloOp τ sig (Elt F))) :=
  Chain.cons (stepAt_unary 3311 _ _ _ rfl (by decide)) <|
  Chain.cons (stepAt_unary 3312 _ _ _ rfl (by decide)) <|
  Chain.cons (stepAt_binary 3313 _ _ _ _ rfl (by decide) (by decide)) <|
  Chain.cons (stepAt_unary 3314 _ _ _ rfl (by decide)) <|
  Chain.cons (stepAt_unary 3315 _ _ _ rfl (by decide)) <|
  Chain.cons (stepAt_binary 3316 _ _ _ _ rfl (by decide) (by decide)) <|
  Chain.nil
theorem hostOps0_143_length : (hostOps0_143 : List (HloOp τ sig (Elt F))).length = 6 := rfl

set_option maxHeartbeats 4000000 in
/-- Operations 3289 … 3438 of the program, writing buffers 3317 … 3466. -/
theorem hostOps0_144_chain : Chain 3317 (hostOps0_144 : List (HloOp τ sig (Elt F))) :=
  Chain.cons (stepAt_nullary 3317 _ _ rfl) <|
  Chain.cons (stepAt_unary 3318 _ _ _ rfl (by decide)) <|
  Chain.cons (stepAt_binary 3319 _ _ _ _ rfl (by decide) (by decide)) <|
  Chain.cons (stepAt_nullary 3320 _ _ rfl) <|
  Chain.cons (stepAt_unary 3321 _ _ _ rfl (by decide)) <|
  Chain.cons (stepAt_binary 3322 _ _ _ _ rfl (by decide) (by decide)) <|
  Chain.cons (stepAt_ternary 3323 _ _ _ _ _ rfl (by decide) (by decide) (by decide)) <|
  Chain.cons (stepAt_nullary 3324 _ _ rfl) <|
  Chain.cons (stepAt_unary 3325 _ _ _ rfl (by decide)) <|
  Chain.cons (stepAt_binary 3326 _ _ _ _ rfl (by decide) (by decide)) <|
  Chain.cons (stepAt_nullary 3327 _ _ rfl) <|
  Chain.cons (stepAt_unary 3328 _ _ _ rfl (by decide)) <|
  Chain.cons (stepAt_binary 3329 _ _ _ _ rfl (by decide) (by decide)) <|
  Chain.cons (stepAt_ternary 3330 _ _ _ _ _ rfl (by decide) (by decide) (by decide)) <|
  Chain.cons (stepAt_unary 3331 _ _ _ rfl (by decide)) <|
  Chain.cons (stepAt_unary 3332 _ _ _ rfl (by decide)) <|
  Chain.cons (stepAt_binary 3333 _ _ _ _ rfl (by decide) (by decide)) <|
  Chain.cons (stepAt_binary 3334 _ _ _ _ rfl (by decide) (by decide)) <|
  Chain.cons (stepAt_nullary 3335 _ _ rfl) <|
  Chain.cons (stepAt_unary 3336 _ _ _ rfl (by decide)) <|
  Chain.cons (stepAt_binary 3337 _ _ _ _ rfl (by decide) (by decide)) <|
  Chain.cons (stepAt_nullary 3338 _ _ rfl) <|
  Chain.cons (stepAt_unary 3339 _ _ _ rfl (by decide)) <|
  Chain.cons (stepAt_binary 3340 _ _ _ _ rfl (by decide) (by decide)) <|
  Chain.cons (stepAt_ternary 3341 _ _ _ _ _ rfl (by decide) (by decide) (by decide)) <|
  Chain.cons (stepAt_nullary 3342 _ _ rfl) <|
  Chain.cons (stepAt_unary 3343 _ _ _ rfl (by decide)) <|
  Chain.cons (stepAt_binary 3344 _ _ _ _ rfl (by decide) (by decide)) <|
  Chain.cons (stepAt_nullary 3345 _ _ rfl) <|
  Chain.cons (stepAt_unary 3346 _ _ _ rfl (by decide)) <|
  Chain.cons (stepAt_binary 3347 _ _ _ _ rfl (by decide) (by decide)) <|
  Chain.cons (stepAt_ternary 3348 _ _ _ _ _ rfl (by decide) (by decide) (by decide)) <|
  Chain.cons (stepAt_unary 3349 _ _ _ rfl (by decide)) <|
  Chain.cons (stepAt_unary 3350 _ _ _ rfl (by decide)) <|
  Chain.cons (stepAt_binary 3351 _ _ _ _ rfl (by decide) (by decide)) <|
  Chain.cons (stepAt_binary 3352 _ _ _ _ rfl (by decide) (by decide)) <|
  Chain.cons (stepAt_nullary 3353 _ _ rfl) <|
  Chain.cons (stepAt_unary 3354 _ _ _ rfl (by decide)) <|
  Chain.cons (stepAt_binary 3355 _ _ _ _ rfl (by decide) (by decide)) <|
  Chain.cons (stepAt_nullary 3356 _ _ rfl) <|
  Chain.cons (stepAt_unary 3357 _ _ _ rfl (by decide)) <|
  Chain.cons (stepAt_binary 3358 _ _ _ _ rfl (by decide) (by decide)) <|
  Chain.cons (stepAt_ternary 3359 _ _ _ _ _ rfl (by decide) (by decide) (by decide)) <|
  Chain.cons (stepAt_nullary 3360 _ _ rfl) <|
  Chain.cons (stepAt_unary 3361 _ _ _ rfl (by decide)) <|
  Chain.cons (stepAt_binary 3362 _ _ _ _ rfl (by decide) (by decide)) <|
  Chain.cons (stepAt_nullary 3363 _ _ rfl) <|
  Chain.cons (stepAt_unary 3364 _ _ _ rfl (by decide)) <|
  Chain.cons (stepAt_binary 3365 _ _ _ _ rfl (by decide) (by decide)) <|
  Chain.cons (stepAt_ternary 3366 _ _ _ _ _ rfl (by decide) (by decide) (by decide)) <|
  Chain.cons (stepAt_unary 3367 _ _ _ rfl (by decide)) <|
  Chain.cons (stepAt_unary 3368 _ _ _ rfl (by decide)) <|
  Chain.cons (stepAt_binary 3369 _ _ _ _ rfl (by decide) (by decide)) <|
  Chain.cons (stepAt_binary 3370 _ _ _ _ rfl (by decide) (by decide)) <|
  Chain.cons (stepAt_nullary 3371 _ _ rfl) <|
  Chain.cons (stepAt_unary 3372 _ _ _ rfl (by decide)) <|
  Chain.cons (stepAt_binary 3373 _ _ _ _ rfl (by decide) (by decide)) <|
  Chain.cons (stepAt_nullary 3374 _ _ rfl) <|
  Chain.cons (stepAt_unary 3375 _ _ _ rfl (by decide)) <|
  Chain.cons (stepAt_binary 3376 _ _ _ _ rfl (by decide) (by decide)) <|
  Chain.cons (stepAt_ternary 3377 _ _ _ _ _ rfl (by decide) (by decide) (by decide)) <|
  Chain.cons (stepAt_nullary 3378 _ _ rfl) <|
  Chain.cons (stepAt_unary 3379 _ _ _ rfl (by decide)) <|
  Chain.cons (stepAt_binary 3380 _ _ _ _ rfl (by decide) (by decide)) <|
  Chain.cons (stepAt_nullary 3381 _ _ rfl) <|
  Chain.cons (stepAt_unary 3382 _ _ _ rfl (by decide)) <|
  Chain.cons (stepAt_binary 3383 _ _ _ _ rfl (by decide) (by decide)) <|
  Chain.cons (stepAt_ternary 3384 _ _ _ _ _ rfl (by decide) (by decide) (by decide)) <|
  Chain.cons (stepAt_unary 3385 _ _ _ rfl (by decide)) <|
  Chain.cons (stepAt_unary 3386 _ _ _ rfl (by decide)) <|
  Chain.cons (stepAt_binary 3387 _ _ _ _ rfl (by decide) (by decide)) <|
  Chain.cons (stepAt_binary 3388 _ _ _ _ rfl (by decide) (by decide)) <|
  Chain.cons (stepAt_nullary 3389 _ _ rfl) <|
  Chain.cons (stepAt_unary 3390 _ _ _ rfl (by decide)) <|
  Chain.cons (stepAt_binary 3391 _ _ _ _ rfl (by decide) (by decide)) <|
  Chain.cons (stepAt_unary 3392 _ _ _ rfl (by decide)) <|
  Chain.cons (stepAt_unary 3393 _ _ _ rfl (by decide)) <|
  Chain.cons (stepAt_binary 3394 _ _ _ _ rfl (by decide) (by decide)) <|
  Chain.cons (stepAt_nullary 3395 _ _ rfl) <|
  Chain.cons (stepAt_unary 3396 _ _ _ rfl (by decide)) <|
  Chain.cons (stepAt_binary 3397 _ _ _ _ rfl (by decide) (by decide)) <|
  Chain.cons (stepAt_unary 3398 _ _ _ rfl (by decide)) <|
  Chain.cons (stepAt_unary 3399 _ _ _ rfl (by decide)) <|
  Chain.cons (stepAt_binary 3400 _ _ _ _ rfl (by decide) (by decide)) <|
  Chain.cons (stepAt_unary 3401 _ _ _ rfl (by decide)) <|
  Chain.cons (stepAt_unary 3402 _ _ _ rfl (by decide)) <|
  Chain.cons (stepAt_binary 3403 _ _ _ _ rfl (by decide) (by decide)) <|
  Chain.cons (stepAt_nullary 3404 _ _ rfl) <|
  Chain.cons (stepAt_unary 3405 _ _ _ rfl (by decide)) <|
  Chain.cons (stepAt_binary 3406 _ _ _ _ rfl (by decide) (by decide)) <|
  Chain.cons (stepAt_unary 3407 _ _ _ rfl (by decide)) <|
  Chain.cons (stepAt_unary 3408 _ _ _ rfl (by decide)) <|
  Chain.cons (stepAt_binary 3409 _ _ _ _ rfl (by decide) (by decide)) <|
  Chain.cons (stepAt_binary 3410 _ _ _ _ rfl (by decide) (by decide)) <|
  Chain.cons (stepAt_nullary 3411 _ _ rfl) <|
  Chain.cons (stepAt_unary 3412 _ _ _ rfl (by decide)) <|
  Chain.cons (stepAt_binary 3413 _ _ _ _ rfl (by decide) (by decide)) <|
  Chain.cons (stepAt_unary 3414 _ _ _ rfl (by decide)) <|
  Chain.cons (stepAt_unary 3415 _ _ _ rfl (by decide)) <|
  Chain.cons (stepAt_binary 3416 _ _ _ _ rfl (by decide) (by decide)) <|
  Chain.cons (stepAt_unary 3417 _ _ _ rfl (by decide)) <|
  Chain.cons (stepAt_unary 3418 _ _ _ rfl (by decide)) <|
  Chain.cons (stepAt_binary 3419 _ _ _ _ rfl (by decide) (by decide)) <|
  Chain.cons (stepAt_binary 3420 _ _ _ _ rfl (by decide) (by decide)) <|
  Chain.cons (stepAt_unary 3421 _ _ _ rfl (by decide)) <|
  Chain.cons (stepAt_unary 3422 _ _ _ rfl (by decide)) <|
  Chain.cons (stepAt_binary 3423 _ _ _ _ rfl (by decide) (by decide)) <|
  Chain.cons (stepAt_unary 3424 _ _ _ rfl (by decide)) <|
  Chain.cons (stepAt_unary 3425 _ _ _ rfl (by decide)) <|
  Chain.cons (stepAt_binary 3426 _ _ _ _ rfl (by decide) (by decide)) <|
  Chain.cons (stepAt_binary 3427 _ _ _ _ rfl (by decide) (by decide)) <|
  Chain.cons (stepAt_unary 3428 _ _ _ rfl (by decide)) <|
  Chain.cons (stepAt_nullary 3429 _ _ rfl) <|
  Chain.cons (stepAt_unary 3430 _ _ _ rfl (by decide)) <|
  Chain.cons (stepAt_binary 3431 _ _ _ _ rfl (by decide) (by decide)) <|
  Chain.cons (stepAt_nullary 3432 _ _ rfl) <|
  Chain.cons (stepAt_unary 3433 _ _ _ rfl (by decide)) <|
  Chain.cons (stepAt_binary 3434 _ _ _ _ rfl (by decide) (by decide)) <|
  Chain.cons (stepAt_ternary 3435 _ _ _ _ _ rfl (by decide) (by decide) (by decide)) <|
  Chain.cons (stepAt_unary 3436 _ _ _ rfl (by decide)) <|
  Chain.cons (stepAt_binary 3437 _ _ _ _ rfl (by decide) (by decide)) <|
  Chain.cons (stepAt_unary 3438 _ _ _ rfl (by decide)) <|
  Chain.cons (stepAt_reshape 3439 _ _ _ _ rfl (by decide)) <|
  Chain.cons (stepAt_nullary 3440 _ _ rfl) <|
  Chain.cons (stepAt_unary 3441 _ _ _ rfl (by decide)) <|
  Chain.cons (stepAt_binary 3442 _ _ _ _ rfl (by decide) (by decide)) <|
  Chain.cons (stepAt_nullary 3443 _ _ rfl) <|
  Chain.cons (stepAt_unary 3444 _ _ _ rfl (by decide)) <|
  Chain.cons (stepAt_binary 3445 _ _ _ _ rfl (by decide) (by decide)) <|
  Chain.cons (stepAt_nullary 3446 _ _ rfl) <|
  Chain.cons (stepAt_unary 3447 _ _ _ rfl (by decide)) <|
  Chain.cons (stepAt_binary 3448 _ _ _ _ rfl (by decide) (by decide)) <|
  Chain.cons (stepAt_unary 3449 _ _ _ rfl (by decide)) <|
  Chain.cons (stepAt_reshape 3450 _ _ _ _ rfl (by decide)) <|
  Chain.cons (stepAt_nullary 3451 _ _ rfl) <|
  Chain.cons (stepAt_unary 3452 _ _ _ rfl (by decide)) <|
  Chain.cons (stepAt_binary 3453 _ _ _ _ rfl (by decide) (by decide)) <|
  Chain.cons (stepAt_nullary 3454 _ _ rfl) <|
  Chain.cons (stepAt_unary 3455 _ _ _ rfl (by decide)) <|
  Chain.cons (stepAt_binary 3456 _ _ _ _ rfl (by decide) (by decide)) <|
  Chain.cons (stepAt_nullary 3457 _ _ rfl) <|
  Chain.cons (stepAt_unary 3458 _ _ _ rfl (by decide)) <|
  Chain.cons (stepAt_binary 3459 _ _ _ _ rfl (by decide) (by decide)) <|
  Chain.cons (stepAt_unary 3460 _ _ _ rfl (by decide)) <|
  Chain.cons (stepAt_unary 3461 _ _ _ rfl (by decide)) <|
  Chain.cons (stepAt_binary 3462 _ _ _ _ rfl (by decide) (by decide)) <|
  Chain.cons (stepAt_binary 3463 _ _ _ _ rfl (by decide) (by decide)) <|
  Chain.cons (stepAt_unary 3464 _ _ _ rfl (by decide)) <|
  Chain.cons (stepAt_nullary 3465 _ _ rfl) <|
  Chain.cons (stepAt_nullary 3466 _ _ rfl) <|
  Chain.nil
theorem hostOps0_144_length : (hostOps0_144 : List (HloOp τ sig (Elt F))).length = 150 := rfl

set_option maxHeartbeats 4000000 in
/-- Operations 3439 … 3444 of the program, writing buffers 3467 … 3472. -/
theorem hostOps0_145_chain : Chain 3467 (hostOps0_145 : List (HloOp τ sig (Elt F))) :=
  Chain.cons (stepAt_unary 3467 _ _ _ rfl (by decide)) <|
  Chain.cons (stepAt_unary 3468 _ _ _ rfl (by decide)) <|
  Chain.cons (stepAt_binary 3469 _ _ _ _ rfl (by decide) (by decide)) <|
  Chain.cons (stepAt_unary 3470 _ _ _ rfl (by decide)) <|
  Chain.cons (stepAt_unary 3471 _ _ _ rfl (by decide)) <|
  Chain.cons (stepAt_binary 3472 _ _ _ _ rfl (by decide) (by decide)) <|
  Chain.nil
theorem hostOps0_145_length : (hostOps0_145 : List (HloOp τ sig (Elt F))).length = 6 := rfl

set_option maxHeartbeats 4000000 in
/-- Operations 3445 … 3449 of the program, writing buffers 3473 … 3477. -/
theorem hostOps0_146_chain : Chain 3473 (hostOps0_146 : List (HloOp τ sig (Elt F))) :=
  Chain.cons (stepAt_nullary 3473 _ _ rfl) <|
  Chain.cons (stepAt_unary 3474 _ _ _ rfl (by decide)) <|
  Chain.cons (stepAt_binary 3475 _ _ _ _ rfl (by decide) (by decide)) <|
  Chain.cons (stepAt_nullary 3476 _ _ rfl) <|
  Chain.cons (stepAt_nullary 3477 _ _ rfl) <|
  Chain.nil
theorem hostOps0_146_length : (hostOps0_146 : List (HloOp τ sig (Elt F))).length = 5 := rfl

set_option maxHeartbeats 4000000 in
/-- Operations 3450 … 3455 of the program, writing buffers 3478 … 3483. -/
theorem hostOps0_147_chain : Chain 3478 (hostOps0_147 : List (HloOp τ sig (Elt F))) :=
  Chain.cons (stepAt_unary 3478 _ _ _ rfl (by decide)) <|
  Chain.cons (stepAt_unary 3479 _ _ _ rfl (by decide)) <|
  Chain.cons (stepAt_binary 3480 _ _ _ _ rfl (by decide) (by decide)) <|
  Chain.cons (stepAt_unary 3481 _ _ _ rfl (by decide)) <|
  Chain.cons (stepAt_unary 3482 _ _ _ rfl (by decide)) <|
  Chain.cons (stepAt_binary 3483 _ _ _ _ rfl (by decide) (by decide)) <|
  Chain.nil
theorem hostOps0_147_length : (hostOps0_147 : List (HloOp τ sig (Elt F))).length = 6 := rfl

set_option maxHeartbeats 4000000 in
/-- Operations 3456 … 3458 of the program, writing buffers 3484 … 3486. -/
theorem hostOps0_148_chain : Chain 3484 (hostOps0_148 : List (HloOp τ sig (Elt F))) :=
  Chain.cons (stepAt_unary 3484 _ _ _ rfl (by decide)) <|
  Chain.cons (stepAt_nullary 3485 _ _ rfl) <|
  Chain.cons (stepAt_nullary 3486 _ _ rfl) <|
  Chain.nil
theorem hostOps0_148_length : (hostOps0_148 : List (HloOp τ sig (Elt F))).length = 3 := rfl

set_option maxHeartbeats 4000000 in
/-- Operations 3459 … 3464 of the program, writing buffers 3487 … 3492. -/
theorem hostOps0_149_chain : Chain 3487 (hostOps0_149 : List (HloOp τ sig (Elt F))) :=
  Chain.cons (stepAt_unary 3487 _ _ _ rfl (by decide)) <|
  Chain.cons (stepAt_unary 3488 _ _ _ rfl (by decide)) <|
  Chain.cons (stepAt_binary 3489 _ _ _ _ rfl (by decide) (by decide)) <|
  Chain.cons (stepAt_unary 3490 _ _ _ rfl (by decide)) <|
  Chain.cons (stepAt_unary 3491 _ _ _ rfl (by decide)) <|
  Chain.cons (stepAt_binary 3492 _ _ _ _ rfl (by decide) (by decide)) <|
  Chain.nil
theorem hostOps0_149_length : (hostOps0_149 : List (HloOp τ sig (Elt F))).length = 6 := rfl

set_option maxHeartbeats 4000000 in
/-- Operations 3465 … 3469 of the program, writing buffers 3493 … 3497. -/
theorem hostOps0_150_chain : Chain 3493 (hostOps0_150 : List (HloOp τ sig (Elt F))) :=
  Chain.cons (stepAt_nullary 3493 _ _ rfl) <|
  Chain.cons (stepAt_unary 3494 _ _ _ rfl (by decide)) <|
  Chain.cons (stepAt_binary 3495 _ _ _ _ rfl (by decide) (by decide)) <|
  Chain.cons (stepAt_nullary 3496 _ _ rfl) <|
  Chain.cons (stepAt_nullary 3497 _ _ rfl) <|
  Chain.nil
theorem hostOps0_150_length : (hostOps0_150 : List (HloOp τ sig (Elt F))).length = 5 := rfl

set_option maxHeartbeats 4000000 in
/-- Operations 3470 … 3475 of the program, writing buffers 3498 … 3503. -/
theorem hostOps0_151_chain : Chain 3498 (hostOps0_151 : List (HloOp τ sig (Elt F))) :=
  Chain.cons (stepAt_unary 3498 _ _ _ rfl (by decide)) <|
  Chain.cons (stepAt_unary 3499 _ _ _ rfl (by decide)) <|
  Chain.cons (stepAt_binary 3500 _ _ _ _ rfl (by decide) (by decide)) <|
  Chain.cons (stepAt_unary 3501 _ _ _ rfl (by decide)) <|
  Chain.cons (stepAt_unary 3502 _ _ _ rfl (by decide)) <|
  Chain.cons (stepAt_binary 3503 _ _ _ _ rfl (by decide) (by decide)) <|
  Chain.nil
theorem hostOps0_151_length : (hostOps0_151 : List (HloOp τ sig (Elt F))).length = 6 := rfl

set_option maxHeartbeats 4000000 in
/-- Operations 3476 … 3625 of the program, writing buffers 3504 … 3653. -/
theorem hostOps0_152_chain : Chain 3504 (hostOps0_152 : List (HloOp τ sig (Elt F))) :=
  Chain.cons (stepAt_nullary 3504 _ _ rfl) <|
  Chain.cons (stepAt_unary 3505 _ _ _ rfl (by decide)) <|
  Chain.cons (stepAt_binary 3506 _ _ _ _ rfl (by decide) (by decide)) <|
  Chain.cons (stepAt_nullary 3507 _ _ rfl) <|
  Chain.cons (stepAt_unary 3508 _ _ _ rfl (by decide)) <|
  Chain.cons (stepAt_binary 3509 _ _ _ _ rfl (by decide) (by decide)) <|
  Chain.cons (stepAt_ternary 3510 _ _ _ _ _ rfl (by decide) (by decide) (by decide)) <|
  Chain.cons (stepAt_nullary 3511 _ _ rfl) <|
  Chain.cons (stepAt_unary 3512 _ _ _ rfl (by decide)) <|
  Chain.cons (stepAt_binary 3513 _ _ _ _ rfl (by decide) (by decide)) <|
  Chain.cons (stepAt_nullary 3514 _ _ rfl) <|
  Chain.cons (stepAt_unary 3515 _ _ _ rfl (by decide)) <|
  Chain.cons (stepAt_binary 3516 _ _ _ _ rfl (by decide) (by decide)) <|
  Chain.cons (stepAt_ternary 3517 _ _ _ _ _ rfl (by decide) (by decide) (by decide)) <|
  Chain.cons (stepAt_unary 3518 _ _ _ rfl (by decide)) <|
  Chain.cons (stepAt_unary 3519 _ _ _ rfl (by decide)) <|
  Chain.cons (stepAt_binary 3520 _ _ _ _ rfl (by decide) (by decide)) <|
  Chain.cons (stepAt_binary 3521 _ _ _ _ rfl (by decide) (by decide)) <|
  Chain.cons (stepAt_nullary 3522 _ _ rfl) <|
  Chain.cons (stepAt_unary 3523 _ _ _ rfl (by decide)) <|
  Chain.cons (stepAt_binary 3524 _ _ _ _ rfl (by decide) (by decide)) <|
  Chain.cons (stepAt_nullary 3525 _ _ rfl) <|
  Chain.cons (stepAt_unary 3526 _ _ _ rfl (by decide)) <|
  Chain.cons (stepAt_binary 3527 _ _ _ _ rfl (by decide) (by decide)) <|
  Chain.cons (stepAt_ternary 3528 _ _ _ _ _ rfl (by decide) (by decide) (by decide)) <|
  Chain.cons (stepAt_nullary 3529 _ _ rfl) <|
  Chain.cons (stepAt_unary 3530 _ _ _ rfl (by decide)) <|
  Chain.cons (stepAt_binary 3531 _ _ _ _ rfl (by decide) (by decide)) <|
  Chain.cons (stepAt_nullary 3532 _ _ rfl) <|
  Chain.cons (stepAt_unary 3533 _ _ _ rfl (by decide)) <|
  Chain.cons (stepAt_binary 3534 _ _ _ _ rfl (by decide) (by decide)) <|
  Chain.cons (stepAt_ternary 3535 _ _ _ _ _ rfl (by decide) (by decide) (by decide)) <|
  Chain.cons (stepAt_unary 3536 _ _ _ rfl (by decide)) <|
  Chain.cons (stepAt_unary 3537 _ _ _ rfl (by decide)) <|
  Chain.cons (stepAt_binary 3538 _ _ _ _ rfl (by decide) (by decide)) <|
  Chain.cons (stepAt_binary 3539 _ _ _ _ rfl (by decide) (by decide)) <|
  Chain.cons (stepAt_nullary 3540 _ _ rfl) <|
  Chain.cons (stepAt_unary 3541 _ _ _ rfl (by decide)) <|
  Chain.cons (stepAt_binary 3542 _ _ _ _ rfl (by decide) (by decide)) <|
  Chain.cons (stepAt_nullary 3543 _ _ rfl) <|
  Chain.cons (stepAt_unary 3544 _ _ _ rfl (by decide)) <|
  Chain.cons (stepAt_binary 3545 _ _ _ _ rfl (by decide) (by decide)) <|
  Chain.cons (stepAt_ternary 3546 _ _ _ _ _ rfl (by decide) (by decide) (by decide)) <|
  Chain.cons (stepAt_nullary 3547 _ _ rfl) <|
  Chain.cons (stepAt_unary 3548 _ _ _ rfl (by decide)) <|
  Chain.cons (stepAt_binary 3549 _ _ _ _ rfl (by decide) (by decide)) <|
  Chain.cons (stepAt_nullary 3550 _ _ rfl) <|
  Chain.cons (stepAt_unary 3551 _ _ _ rfl (by decide)) <|
  Chain.cons (stepAt_binary 3552 _ _ _ _ rfl (by decide) (by decide)) <|
  Chain.cons (stepAt_ternary 3553 _ _ _ _ _ rfl (by decide) (by decide) (by decide)) <|
  Chain.cons (stepAt_unary 3554 _ _ _ rfl (by decide)) <|
  Chain.cons (stepAt_unary 3555 _ _ _ rfl (by decide)) <|
  Chain.cons (stepAt_binary 3556 _ _ _ _ rfl (by decide) (by decide)) <|
  Chain.cons (stepAt_binary 3557 _ _ _ _ rfl (by decide) (by decide)) <|
  Chain.cons (stepAt_nullary 3558 _ _ rfl) <|
  Chain.cons (stepAt_unary 3559 _ _ _ rfl (by decide)) <|
  Chain.cons (stepAt_binary 3560 _ _ _ _ rfl (by decide) (by decide)) <|
  Chain.cons (stepAt_nullary 3561 _ _ rfl) <|
  Chain.cons (stepAt_unary 3562 _ _ _ rfl (by decide)) <|
  Chain.cons (stepAt_binary 3563 _ _ _ _ rfl (by decide) (by decide)) <|
  Chain.cons (stepAt_ternary 3564 _ _ _ _ _ rfl (by decide) (by decide) (by decide)) <|
  Chain.cons (stepAt_nullary 3565 _ _ rfl) <|
  Chain.cons (stepAt_unary 3566 _ _ _ rfl (by decide)) <|
  Chain.cons (stepAt_binary 3567 _ _ _ _ rfl (by decide) (by decide)) <|
  Chain.cons (stepAt_nullary 3568 _ _ rfl) <|
  Chain.cons (stepAt_unary 3569 _ _ _ rfl (by decide)) <|
  Chain.cons (stepAt_binary 3570 _ _ _ _ rfl (by decide) (by decide)) <|
  Chain.cons (stepAt_ternary 3571 _ _ _ _ _ rfl (by decide) (by decide) (by decide)) <|
  Chain.cons (stepAt_unary 3572 _ _ _ rfl (by decide)) <|
  Chain.cons (stepAt_unary 3573 _ _ _ rfl (by decide)) <|
  Chain.cons (stepAt_binary 3574 _ _ _ _ rfl (by decide) (by decide)) <|
  Chain.cons (stepAt_binary 3575 _ _ _ _ rfl (by decide) (by decide)) <|
  Chain.cons (stepAt_nullary 3576 _ _ rfl) <|
  Chain.cons (stepAt_unary 3577 _ _ _ rfl (by decide)) <|
  Chain.cons (stepAt_binary 3578 _ _ _ _ rfl (by decide) (by decide)) <|
  Chain.cons (stepAt_unary 3579 _ _ _ rfl (by decide)) <|
  Chain.cons (stepAt_unary 3580 _ _ _ rfl (by decide)) <|
  Chain.cons (stepAt_binary 3581 _ _ _ _ rfl (by decide) (by decide)) <|
  Chain.cons (stepAt_nullary 3582 _ _ rfl) <|
  Chain.cons (stepAt_unary 3583 _ _ _ rfl (by decide)) <|
  Chain.cons (stepAt_binary 3584 _ _ _ _ rfl (by decide) (by decide)) <|
  Chain.cons (stepAt_unary 3585 _ _ _ rfl (by decide)) <|
  Chain.cons (stepAt_unary 3586 _ _ _ rfl (by decide)) <|
  Chain.cons (stepAt_binary 3587 _ _ _ _ rfl (by decide) (by decide)) <|
  Chain.cons (stepAt_unary 3588 _ _ _ rfl (by decide)) <|
  Chain.cons (stepAt_unary 3589 _ _ _ rfl (by decide)) <|
  Chain.cons (stepAt_binary 3590 _ _ _ _ rfl (by decide) (by decide)) <|
  Chain.cons (stepAt_nullary 3591 _ _ rfl) <|
  Chain.cons (stepAt_unary 3592 _ _ _ rfl (by decide)) <|
  Chain.cons (stepAt_binary 3593 _ _ _ _ rfl (by decide) (by decide)) <|
  Chain.cons (stepAt_unary 3594 _ _ _ rfl (by decide)) <|
  Chain.cons (stepAt_unary 3595 _ _ _ rfl (by decide)) <|
  Chain.cons (stepAt_binary 3596 _ _ _ _ rfl (by decide) (by decide)) <|
  Chain.cons (stepAt_binary 3597 _ _ _ _ rfl (by decide) (by decide)) <|
  Chain.cons (stepAt_nullary 3598 _ _ rfl) <|
  Chain.cons (stepAt_unary 3599 _ _ _ rfl (by decide)) <|
  Chain.cons (stepAt_binary 3600 _ _ _ _ rfl (by decide) (by decide)) <|
  Chain.cons (stepAt_unary 3601 _ _ _ rfl (by decide)) <|
  Chain.cons (stepAt_unary 3602 _ _ _ rfl (by decide)) <|
  Chain.cons (stepAt_binary 3603 _ _ _ _ rfl (by decide) (by decide)) <|
  Chain.cons (stepAt_unary 3604 _ _ _ rfl (by decide)) <|
  Chain.cons (stepAt_unary 3605 _ _ _ rfl (by decide)) <|
  Chain.cons (stepAt_binary 3606 _ _ _ _ rfl (by decide) (by decide)) <|
  Chain.cons (stepAt_binary 3607 _ _ _ _ rfl (by decide) (by decide)) <|
  Chain.cons (stepAt_unary 3608 _ _ _ rfl (by decide)) <|
  Chain.cons (stepAt_unary 3609 _ _ _ rfl (by decide)) <|
  Chain.cons (stepAt_binary 3610 _ _ _ _ rfl (by decide) (by decide)) <|
  Chain.cons (stepAt_unary 3611 _ _ _ rfl (by decide)) <|
  Chain.cons (stepAt_unary 3612 _ _ _ rfl (by decide)) <|
  Chain.cons (stepAt_binary 3613 _ _ _ _ rfl (by decide) (by decide)) <|
  Chain.cons (stepAt_binary 3614 _ _ _ _ rfl (by decide) (by decide)) <|
  Chain.cons (stepAt_unary 3615 _ _ _ rfl (by decide)) <|
  Chain.cons (stepAt_nullary 3616 _ _ rfl) <|
  Chain.cons (stepAt_unary 3617 _ _ _ rfl (by decide)) <|
  Chain.cons (stepAt_binary 3618 _ _ _ _ rfl (by decide) (by decide)) <|
  Chain.cons (stepAt_nullary 3619 _ _ rfl) <|
  Chain.cons (stepAt_unary 3620 _ _ _ rfl (by decide)) <|
  Chain.cons (stepAt_binary 3621 _ _ _ _ rfl (by decide) (by decide)) <|
  Chain.cons (stepAt_ternary 3622 _ _ _ _ _ rfl (by decide) (by decide) (by decide)) <|
  Chain.cons (stepAt_unary 3623 _ _ _ rfl (by decide)) <|
  Chain.cons (stepAt_binary 3624 _ _ _ _ rfl (by decide) (by decide)) <|
  Chain.cons (stepAt_unary 3625 _ _ _ rfl (by decide)) <|
  Chain.cons (stepAt_reshape 3626 _ _ _ _ rfl (by decide)) <|
  Chain.cons (stepAt_nullary 3627 _ _ rfl) <|
  Chain.cons (stepAt_unary 3628 _ _ _ rfl (by decide)) <|
  Chain.cons (stepAt_binary 3629 _ _ _ _ rfl (by decide) (by decide)) <|
  Chain.cons (stepAt_nullary 3630 _ _ rfl) <|
  Chain.cons (stepAt_unary 3631 _ _ _ rfl (by decide)) <|
  Chain.cons (stepAt_binary 3632 _ _ _ _ rfl (by decide) (by decide)) <|
  Chain.cons (stepAt_nullary 3633 _ _ rfl) <|
  Chain.cons (stepAt_unary 3634 _ _ _ rfl (by decide)) <|
  Chain.cons (stepAt_binary 3635 _ _ _ _ rfl (by decide) (by decide)) <|
  Chain.cons (stepAt_unary 3636 _ _ _ rfl (by decide)) <|
  Chain.cons (stepAt_reshape 3637 _ _ _ _ rfl (by decide)) <|
  Chain.cons (stepAt_nullary 3638 _ _ rfl) <|
  Chain.cons (stepAt_unary 3639 _ _ _ rfl (by decide)) <|
  Chain.cons (stepAt_binary 3640 _ _ _ _ rfl (by decide) (by decide)) <|
  Chain.cons (stepAt_nullary 3641 _ _ rfl) <|
  Chain.cons (stepAt_unary 3642 _ _ _ rfl (by decide)) <|
  Chain.cons (stepAt_binary 3643 _ _ _ _ rfl (by decide) (by decide)) <|
  Chain.cons (stepAt_nullary 3644 _ _ rfl) <|
  Chain.cons (stepAt_unary 3645 _ _ _ rfl (by decide)) <|
  Chain.cons (stepAt_binary 3646 _ _ _ _ rfl (by decide) (by decide)) <|
  Chain.cons (stepAt_unary 3647 _ _ _ rfl (by decide)) <|
  Chain.cons (stepAt_unary 3648 _ _ _ rfl (by decide)) <|
  Chain.cons (stepAt_binary 3649 _ _ _ _ rfl (by decide) (by decide)) <|
  Chain.cons (stepAt_binary 3650 _ _ _ _ rfl (by decide) (by decide)) <|
  Chain.cons (stepAt_unary 3651 _ _ _ rfl (by decide)) <|
  Chain.cons (stepAt_nullary 3652 _ _ rfl) <|
  Chain.cons (stepAt_nullary 3653 _ _ rfl) <|
  Chain.nil
theorem hostOps0_152_length : (hostOps0_152 : List (HloOp τ sig (Elt F))).length = 150 := rfl

set_option maxHeartbeats 4000000 in
/-- Operations 3626 … 3631 of the program, writing buffers 3654 … 3659. -/
theorem hostOps0_153_chain : Chain 3654 (hostOps0_153 : List (HloOp τ sig (Elt F))) :=
  Chain.cons (stepAt_unary 3654 _ _ _ rfl (by decide)) <|
  Chain.cons (stepAt_unary 3655 _ _ _ rfl (by decide)) <|
  Chain.cons (stepAt_binary 3656 _ _ _ _ rfl (by decide) (by decide)) <|
  Chain.cons (stepAt_unary 3657 _ _ _ rfl (by decide)) <|
  Chain.cons (stepAt_unary 3658 _ _ _ rfl (by decide)) <|
  Chain.cons (stepAt_binary 3659 _ _ _ _ rfl (by decide) (by decide)) <|
  Chain.nil
theorem hostOps0_153_length : (hostOps0_153 : List (HloOp τ sig (Elt F))).length = 6 := rfl

set_option maxHeartbeats 4000000 in
/-- Operations 3632 … 3636 of the program, writing buffers 3660 … 3664. -/
theorem hostOps0_154_chain : Chain 3660 (hostOps0_154 : List (HloOp τ sig (Elt F))) :=
  Chain.cons (stepAt_nullary 3660 _ _ rfl) <|
  Chain.cons (stepAt_unary 3661 _ _ _ rfl (by decide)) <|
  Chain.cons (stepAt_binary 3662 _ _ _ _ rfl (by decide) (by decide)) <|
  Chain.cons (stepAt_nullary 3663 _ _ rfl) <|
  Chain.cons (stepAt_nullary 3664 _ _ rfl) <|
  Chain.nil
theorem hostOps0_154_length : (hostOps0_154 : List (HloOp τ sig (Elt F))).length = 5 := rfl

set_option maxHeartbeats 4000000 in
/-- Operations 3637 … 3642 of the program, writing buffers 3665 … 3670. -/
theorem hostOps0_155_chain : Chain 3665 (hostOps0_155 : List (HloOp τ sig (Elt F))) :=
  Chain.cons (stepAt_unary 3665 _ _ _ rfl (by decide)) <|
  Chain.cons (stepAt_unary 3666 _ _ _ rfl (by decide)) <|
  Chain.cons (stepAt_binary 3667 _ _ _ _ rfl (by decide) (by decide)) <|
  Chain.cons (stepAt_unary 3668 _ _ _ rfl (by decide)) <|
  Chain.cons (stepAt_unary 3669 _ _ _ rfl (by decide)) <|
  Chain.cons (stepAt_binary 3670 _ _ _ _ rfl (by decide) (by decide)) <|
  Chain.nil
theorem hostOps0_155_length : (hostOps0_155 : List (HloOp τ sig (Elt F))).length = 6 := rfl

set_option maxHeartbeats 4000000 in
/-- Operations 3643 … 3645 of the program, writing buffers 3671 … 3673. -/
theorem hostOps0_156_chain : Chain 3671 (hostOps0_156 : List (HloOp τ sig (Elt F))) :=
  Chain.cons (stepAt_unary 3671 _ _ _ rfl (by decide)) <|
  Chain.cons (stepAt_nullary 3672 _ _ rfl) <|
  Chain.cons (stepAt_nullary 3673 _ _ rfl) <|
  Chain.nil
theorem hostOps0_156_length : (hostOps0_156 : List (HloOp τ sig (Elt F))).length = 3 := rfl

set_option maxHeartbeats 4000000 in
/-- Operations 3646 … 3651 of the program, writing buffers 3674 … 3679. -/
theorem hostOps0_157_chain : Chain 3674 (hostOps0_157 : List (HloOp τ sig (Elt F))) :=
  Chain.cons (stepAt_unary 3674 _ _ _ rfl (by decide)) <|
  Chain.cons (stepAt_unary 3675 _ _ _ rfl (by decide)) <|
  Chain.cons (stepAt_binary 3676 _ _ _ _ rfl (by decide) (by decide)) <|
  Chain.cons (stepAt_unary 3677 _ _ _ rfl (by decide)) <|
  Chain.cons (stepAt_unary 3678 _ _ _ rfl (by decide)) <|
  Chain.cons (stepAt_binary 3679 _ _ _ _ rfl (by decide) (by decide)) <|
  Chain.nil
theorem hostOps0_157_length : (hostOps0_157 : List (HloOp τ sig (Elt F))).length = 6 := rfl

set_option maxHeartbeats 4000000 in
/-- Operations 3652 … 3656 of the program, writing buffers 3680 … 3684. -/
theorem hostOps0_158_chain : Chain 3680 (hostOps0_158 : List (HloOp τ sig (Elt F))) :=
  Chain.cons (stepAt_nullary 3680 _ _ rfl) <|
  Chain.cons (stepAt_unary 3681 _ _ _ rfl (by decide)) <|
  Chain.cons (stepAt_binary 3682 _ _ _ _ rfl (by decide) (by decide)) <|
  Chain.cons (stepAt_nullary 3683 _ _ rfl) <|
  Chain.cons (stepAt_nullary 3684 _ _ rfl) <|
  Chain.nil
theorem hostOps0_158_length : (hostOps0_158 : List (HloOp τ sig (Elt F))).length = 5 := rfl

set_option maxHeartbeats 4000000 in
/-- Operations 3657 … 3662 of the program, writing buffers 3685 … 3690. -/
theorem hostOps0_159_chain : Chain 3685 (hostOps0_159 : List (HloOp τ sig (Elt F))) :=
  Chain.cons (stepAt_unary 3685 _ _ _ rfl (by decide)) <|
  Chain.cons (stepAt_unary 3686 _ _ _ rfl (by decide)) <|
  Chain.cons (stepAt_binary 3687 _ _ _ _ rfl (by decide) (by decide)) <|
  Chain.cons (stepAt_unary 3688 _ _ _ rfl (by decide)) <|
  Chain.cons (stepAt_unary 3689 _ _ _ rfl (by decide)) <|
  Chain.cons (stepAt_binary 3690 _ _ _ _ rfl (by decide) (by decide)) <|
  Chain.nil
theorem hostOps0_159_length : (hostOps0_159 : List (HloOp τ sig (Elt F))).length = 6 := rfl

end Cert.KernelIdeal.Stretch

end
-- ==== Proof.KIStretch4.lean ====
/- The stretches of @main's host operations before the kernel's region are single-assignment lines: the operations of a
   stretch write the consecutive buffers numbered from the stated bound, each reading only buffers of smaller numbers. -/
import proofs.«133805_j10187662426200_2_alg».proof.Proof.Gen.KernelIdeal.Launch
import proofs.«133805_j10187662426200_2_alg».proof.Proof.HostChain

set_option maxRecDepth 65536

noncomputable section

namespace Cert.KernelIdeal.Stretch

open Cert.KernelIdeal Cert.KernelIdeal.Gen Idealize.ShloMosaic Idealize.ShloMosaic.TcCoe Idealize.SL.Sem Idealize.ShloMosaic.StableHlo Cert.HostFold

variable {F : FTy → Type} [FloatOps F]

set_option maxHeartbeats 4000000 in
/-- Operations 3663 … 3812 of the program, writing buffers 3691 … 3840. -/
theorem hostOps0_160_chain : Chain 3691 (hostOps0_160 : List (HloOp τ sig (Elt F))) :=
  Chain.cons (stepAt_nullary 3691 _ _ rfl) <|
  Chain.cons (stepAt_unary 3692 _ _ _ rfl (by decide)) <|
  Chain.cons (stepAt_binary 3693 _ _ _ _ rfl (by decide) (by decide)) <|
  Chain.cons (stepAt_nullary 3694 _ _ rfl) <|
  Chain.cons (stepAt_unary 3695 _ _ _ rfl (by decide)) <|
  Chain.cons (stepAt_binary 3696 _ _ _ _ rfl (by decide) (by decide)) <|
  Chain.cons (stepAt_ternary 3697 _ _ _ _ _ rfl (by decide) (by decide) (by decide)) <|
  Chain.cons (stepAt_nullary 3698 _ _ rfl) <|
  Chain.cons (stepAt_unary 3699 _ _ _ rfl (by decide)) <|
  Chain.cons (stepAt_binary 3700 _ _ _ _ rfl (by decide) (by decide)) <|
  Chain.cons (stepAt_nullary 3701 _ _ rfl) <|
  Chain.cons (stepAt_unary 3702 _ _ _ rfl (by decide)) <|
  Chain.cons (stepAt_binary 3703 _ _ _ _ rfl (by decide) (by decide)) <|
  Chain.cons (stepAt_ternary 3704 _ _ _ _ _ rfl (by decide) (by decide) (by decide)) <|
  Chain.cons (stepAt_unary 3705 _ _ _ rfl (by decide)) <|
  Chain.cons (stepAt_unary 3706 _ _ _ rfl (by decide)) <|
  Chain.cons (stepAt_binary 3707 _ _ _ _ rfl (by decide) (by decide)) <|
  Chain.cons (stepAt_binary 3708 _ _ _ _ rfl (by decide) (by decide)) <|
  Chain.cons (stepAt_nullary 3709 _ _ rfl) <|
  Chain.cons (stepAt_unary 3710 _ _ _ rfl (by decide)) <|
  Chain.cons (stepAt_binary 3711 _ _ _ _ rfl (by decide) (by decide)) <|
  Chain.cons (stepAt_nullary 3712 _ _ rfl) <|
  Chain.cons (stepAt_unary 3713 _ _ _ rfl (by decide)) <|
  Chain.cons (stepAt_binary 3714 _ _ _ _ rfl (by decide) (by decide)) <|
  Chain.cons (stepAt_ternary 3715 _ _ _ _ _ rfl (by decide) (by decide) (by decide)) <|
  Chain.cons (stepAt_nullary 3716 _ _ rfl) <|
  Chain.cons (stepAt_unary 3717 _ _ _ rfl (by decide)) <|
  Chain.cons (stepAt_binary 3718 _ _ _ _ rfl (by decide) (by decide)) <|
  Chain.cons (stepAt_nullary 3719 _ _ rfl) <|
  Chain.cons (stepAt_unary 3720 _ _ _ rfl (by decide)) <|
  Chain.cons (stepAt_binary 3721 _ _ _ _ rfl (by decide) (by decide)) <|
  Chain.cons (stepAt_ternary 3722 _ _ _ _ _ rfl (by decide) (by decide) (by decide)) <|
  Chain.cons (stepAt_unary 3723 _ _ _ rfl (by decide)) <|
  Chain.cons (stepAt_unary 3724 _ _ _ rfl (by decide)) <|
  Chain.cons (stepAt_binary 3725 _ _ _ _ rfl (by decide) (by decide)) <|
  Chain.cons (stepAt_binary 3726 _ _ _ _ rfl (by decide) (by decide)) <|
  Chain.cons (stepAt_nullary 3727 _ _ rfl) <|
  Chain.cons (stepAt_unary 3728 _ _ _ rfl (by decide)) <|
  Chain.cons (stepAt_binary 3729 _ _ _ _ rfl (by decide) (by decide)) <|
  Chain.cons (stepAt_nullary 3730 _ _ rfl) <|
  Chain.cons (stepAt_unary 3731 _ _ _ rfl (by decide)) <|
  Chain.cons (stepAt_binary 3732 _ _ _ _ rfl (by decide) (by decide)) <|
  Chain.cons (stepAt_ternary 3733 _ _ _ _ _ rfl (by decide) (by decide) (by decide)) <|
  Chain.cons (stepAt_nullary 3734 _ _ rfl) <|
  Chain.cons (stepAt_unary 3735 _ _ _ rfl (by decide)) <|
  Chain.cons (stepAt_binary 3736 _ _ _ _ rfl (by decide) (by decide)) <|
  Chain.cons (stepAt_nullary 3737 _ _ rfl) <|
  Chain.cons (stepAt_unary 3738 _ _ _ rfl (by decide)) <|
  Chain.cons (stepAt_binary 3739 _ _ _ _ rfl (by decide) (by decide)) <|
  Chain.cons (stepAt_ternary 3740 _ _ _ _ _ rfl (by decide) (by decide) (by decide)) <|
  Chain.cons (stepAt_unary 3741 _ _ _ rfl (by decide)) <|
  Chain.cons (stepAt_unary 3742 _ _ _ rfl (by decide)) <|
  Chain.cons (stepAt_binary 3743 _ _ _ _ rfl (by decide) (by decide)) <|
  Chain.cons (stepAt_binary 3744 _ _ _ _ rfl (by decide) (by decide)) <|
  Chain.cons (stepAt_nullary 3745 _ _ rfl) <|
  Chain.cons (stepAt_unary 3746 _ _ _ rfl (by decide)) <|
  Chain.cons (stepAt_binary 3747 _ _ _ _ rfl (by decide) (by decide)) <|
  Chain.cons (stepAt_nullary 3748 _ _ rfl) <|
  Chain.cons (stepAt_unary 3749 _ _ _ rfl (by decide)) <|
  Chain.cons (stepAt_binary 3750 _ _ _ _ rfl (by decide) (by decide)) <|
  Chain.cons (stepAt_ternary 3751 _ _ _ _ _ rfl (by decide) (by decide) (by decide)) <|
  Chain.cons (stepAt_nullary 3752 _ _ rfl) <|
  Chain.cons (stepAt_unary 3753 _ _ _ rfl (by decide)) <|
  Chain.cons (stepAt_binary 3754 _ _ _ _ rfl (by decide) (by decide)) <|
  Chain.cons (stepAt_nullary 3755 _ _ rfl) <|
  Chain.cons (stepAt_unary 3756 _ _ _ rfl (by decide)) <|
  Chain.cons (stepAt_binary 3757 _ _ _ _ rfl (by decide) (by decide)) <|
  Chain.cons (stepAt_ternary 3758 _ _ _ _ _ rfl (by decide) (by decide) (by decide)) <|
  Chain.cons (stepAt_unary 3759 _ _ _ rfl (by decide)) <|
  Chain.cons (stepAt_unary 3760 _ _ _ rfl (by decide)) <|
  Chain.cons (stepAt_binary 3761 _ _ _ _ rfl (by decide) (by decide)) <|
  Chain.cons (stepAt_binary 3762 _ _ _ _ rfl (by decide) (by decide)) <|
  Chain.cons (stepAt_nullary 3763 _ _ rfl) <|
  Chain.cons (stepAt_unary 3764 _ _ _ rfl (by decide)) <|
  Chain.cons (stepAt_binary 3765 _ _ _ _ rfl (by decide) (by decide)) <|
  Chain.cons (stepAt_unary 3766 _ _ _ rfl (by decide)) <|
  Chain.cons (stepAt_unary 3767 _ _ _ rfl (by decide)) <|
  Chain.cons (stepAt_binary 3768 _ _ _ _ rfl (by decide) (by decide)) <|
  Chain.cons (stepAt_nullary 3769 _ _ rfl) <|
  Chain.cons (stepAt_unary 3770 _ _ _ rfl (by decide)) <|
  Chain.cons (stepAt_binary 3771 _ _ _ _ rfl (by decide) (by decide)) <|
  Chain.cons (stepAt_unary 3772 _ _ _ rfl (by decide)) <|
  Chain.cons (stepAt_unary 3773 _ _ _ rfl (by decide)) <|
  Chain.cons (stepAt_binary 3774 _ _ _ _ rfl (by decide) (by decide)) <|
  Chain.cons (stepAt_unary 3775 _ _ _ rfl (by decide)) <|
  Chain.cons (stepAt_unary 3776 _ _ _ rfl (by decide)) <|
  Chain.cons (stepAt_binary 3777 _ _ _ _ rfl (by decide) (by decide)) <|
  Chain.cons (stepAt_nullary 3778 _ _ rfl) <|
  Chain.cons (stepAt_unary 3779 _ _ _ rfl (by decide)) <|
  Chain.cons (stepAt_binary 3780 _ _ _ _ rfl (by decide) (by decide)) <|
  Chain.cons (stepAt_unary 3781 _ _ _ rfl (by decide)) <|
  Chain.cons (stepAt_unary 3782 _ _ _ rfl (by decide)) <|
  Chain.cons (stepAt_binary 3783 _ _ _ _ rfl (by decide) (by decide)) <|
  Chain.cons (stepAt_binary 3784 _ _ _ _ rfl (by decide) (by decide)) <|
  Chain.cons (stepAt_nullary 3785 _ _ rfl) <|
  Chain.cons (stepAt_unary 3786 _ _ _ rfl (by decide)) <|
  Chain.cons (stepAt_binary 3787 _ _ _ _ rfl (by decide) (by decide)) <|
  Chain.cons (stepAt_unary 3788 _ _ _ rfl (by decide)) <|
  Chain.cons (stepAt_unary 3789 _ _ _ rfl (by decide)) <|
  Chain.cons (stepAt_binary 3790 _ _ _ _ rfl (by decide) (by decide)) <|
  Chain.cons (stepAt_unary 3791 _ _ _ rfl (by decide)) <|
  Chain.cons (stepAt_unary 3792 _ _ _ rfl (by decide)) <|
  Chain.cons (stepAt_binary 3793 _ _ _ _ rfl (by decide) (by decide)) <|
  Chain.cons (stepAt_binary 3794 _ _ _ _ rfl (by decide) (by decide)) <|
  Chain.cons (stepAt_unary 3795 _ _ _ rfl (by decide)) <|
  Chain.cons (stepAt_unary 3796 _ _ _ rfl (by decide)) <|
  Chain.cons (stepAt_binary 3797 _ _ _ _ rfl (by decide) (by decide)) <|
  Chain.cons (stepAt_unary 3798 _ _ _ rfl (by decide)) <|
  Chain.cons (stepAt_unary 3799 _ _ _ rfl (by decide)) <|
  Chain.cons (stepAt_binary 3800 _ _ _ _ rfl (by decide) (by decide)) <|
  Chain.cons (stepAt_binary 3801 _ _ _ _ rfl (by decide) (by decide)) <|
  Chain.cons (stepAt_unary 3802 _ _ _ rfl (by decide)) <|
  Chain.cons (stepAt_nullary 3803 _ _ rfl) <|
  Chain.cons (stepAt_unary 3804 _ _ _ rfl (by decide)) <|
  Chain.cons (stepAt_binary 3805 _ _ _ _ rfl (by decide) (by decide)) <|
  Chain.cons (stepAt_nullary 3806 _ _ rfl) <|
  Chain.cons (stepAt_unary 3807 _ _ _ rfl (by decide)) <|
  Chain.cons (stepAt_binary 3808 _ _ _ _ rfl (by decide) (by decide)) <|
  Chain.cons (stepAt_ternary 3809 _ _ _ _ _ rfl (by decide) (by decide) (by decide)) <|
  Chain.cons (stepAt_unary 3810 _ _ _ rfl (by decide)) <|
  Chain.cons (stepAt_binary 3811 _ _ _ _ rfl (by decide) (by decide)) <|
  Chain.cons (stepAt_unary 3812 _ _ _ rfl (by decide)) <|
  Chain.cons (stepAt_reshape 3813 _ _ _ _ rfl (by decide)) <|
  Chain.cons (stepAt_nullary 3814 _ _ rfl) <|
  Chain.cons (stepAt_unary 3815 _ _ _ rfl (by decide)) <|
  Chain.cons (stepAt_binary 3816 _ _ _ _ rfl (by decide) (by decide)) <|
  Chain.cons (stepAt_nullary 3817 _ _ rfl) <|
  Chain.cons (stepAt_unary 3818 _ _ _ rfl (by decide)) <|
  Chain.cons (stepAt_binary 3819 _ _ _ _ rfl (by decide) (by decide)) <|
  Chain.cons (stepAt_nullary 3820 _ _ rfl) <|
  Chain.cons (stepAt_unary 3821 _ _ _ rfl (by decide)) <|
  Chain.cons (stepAt_binary 3822 _ _ _ _ rfl (by decide) (by decide)) <|
  Chain.cons (stepAt_unary 3823 _ _ _ rfl (by decide)) <|
  Chain.cons (stepAt_reshape 3824 _ _ _ _ rfl (by decide)) <|
  Chain.cons (stepAt_nullary 3825 _ _ rfl) <|
  Chain.cons (stepAt_unary 3826 _ _ _ rfl (by decide)) <|
  Chain.cons (stepAt_binary 3827 _ _ _ _ rfl (by decide) (by decide)) <|
  Chain.cons (stepAt_nullary 3828 _ _ rfl) <|
  Chain.cons (stepAt_unary 3829 _ _ _ rfl (by decide)) <|
  Chain.cons (stepAt_binary 3830 _ _ _ _ rfl (by decide) (by decide)) <|
  Chain.cons (stepAt_nullary 3831 _ _ rfl) <|
  Chain.cons (stepAt_unary 3832 _ _ _ rfl (by decide)) <|
  Chain.cons (stepAt_binary 3833 _ _ _ _ rfl (by decide) (by decide)) <|
  Chain.cons (stepAt_unary 3834 _ _ _ rfl (by decide)) <|
  Chain.cons (stepAt_unary 3835 _ _ _ rfl (by decide)) <|
  Chain.cons (stepAt_binary 3836 _ _ _ _ rfl (by decide) (by decide)) <|
  Chain.cons (stepAt_binary 3837 _ _ _ _ rfl (by decide) (by decide)) <|
  Chain.cons (stepAt_unary 3838 _ _ _ rfl (by decide)) <|
  Chain.cons (stepAt_nullary 3839 _ _ rfl) <|
  Chain.cons (stepAt_nullary 3840 _ _ rfl) <|
  Chain.nil
theorem hostOps0_160_length : (hostOps0_160 : List (HloOp τ sig (Elt F))).length = 150 := rfl

set_option maxHeartbeats 4000000 in
/-- Operations 3813 … 3818 of the program, writing buffers 3841 … 3846. -/
theorem hostOps0_161_chain : Chain 3841 (hostOps0_161 : List (HloOp τ sig (Elt F))) :=
  Chain.cons (stepAt_unary 3841 _ _ _ rfl (by decide)) <|
  Chain.cons (stepAt_unary 3842 _ _ _ rfl (by decide)) <|
  Chain.cons (stepAt_binary 3843 _ _ _ _ rfl (by decide) (by decide)) <|
  Chain.cons (stepAt_unary 3844 _ _ _ rfl (by decide)) <|
  Chain.cons (stepAt_unary 3845 _ _ _ rfl (by decide)) <|
  Chain.cons (stepAt_binary 3846 _ _ _ _ rfl (by decide) (by decide)) <|
  Chain.nil
theorem hostOps0_161_length : (hostOps0_161 : List (HloOp τ sig (Elt F))).length = 6 := rfl

set_option maxHeartbeats 4000000 in
/-- Operations 3819 … 3823 of the program, writing buffers 3847 … 3851. -/
theorem hostOps0_162_chain : Chain 3847 (hostOps0_162 : List (HloOp τ sig (Elt F))) :=
  Chain.cons (stepAt_nullary 3847 _ _ rfl) <|
  Chain.cons (stepAt_unary 3848 _ _ _ rfl (by decide)) <|
  Chain.cons (stepAt_binary 3849 _ _ _ _ rfl (by decide) (by decide)) <|
  Chain.cons (stepAt_nullary 3850 _ _ rfl) <|
  Chain.cons (stepAt_nullary 3851 _ _ rfl) <|
  Chain.nil
theorem hostOps0_162_length : (hostOps0_162 : List (HloOp τ sig (Elt F))).length = 5 := rfl

set_option maxHeartbeats 4000000 in
/-- Operations 3824 … 3829 of the program, writing buffers 3852 … 3857. -/
theorem hostOps0_163_chain : Chain 3852 (hostOps0_163 : List (HloOp τ sig (Elt F))) :=
  Chain.cons (stepAt_unary 3852 _ _ _ rfl (by decide)) <|
  Chain.cons (stepAt_unary 3853 _ _ _ rfl (by decide)) <|
  Chain.cons (stepAt_binary 3854 _ _ _ _ rfl (by decide) (by decide)) <|
  Chain.cons (stepAt_unary 3855 _ _ _ rfl (by decide)) <|
  Chain.cons (stepAt_unary 3856 _ _ _ rfl (by decide)) <|
  Chain.cons (stepAt_binary 3857 _ _ _ _ rfl (by decide) (by decide)) <|
  Chain.nil
theorem hostOps0_163_length : (hostOps0_163 : List (HloOp τ sig (Elt F))).length = 6 := rfl

set_option maxHeartbeats 4000000 in
/-- Operations 3830 … 3832 of the program, writing buffers 3858 … 3860. -/
theorem hostOps0_164_chain : Chain 3858 (hostOps0_164 : List (HloOp τ sig (Elt F))) :=
  Chain.cons (stepAt_unary 3858 _ _ _ rfl (by decide)) <|
  Chain.cons (stepAt_nullary 3859 _ _ rfl) <|
  Chain.cons (stepAt_nullary 3860 _ _ rfl) <|
  Chain.nil
theorem hostOps0_164_length : (hostOps0_164 : List (HloOp τ sig (Elt F))).length = 3 := rfl

set_option maxHeartbeats 4000000 in
/-- Operations 3833 … 3838 of the program, writing buffers 3861 … 3866. -/
theorem hostOps0_165_chain : Chain 3861 (hostOps0_165 : List (HloOp τ sig (Elt F))) :=
  Chain.cons (stepAt_unary 3861 _ _ _ rfl (by decide)) <|
  Chain.cons (stepAt_unary 3862 _ _ _ rfl (by decide)) <|
  Chain.cons (stepAt_binary 3863 _ _ _ _ rfl (by decide) (by decide)) <|
  Chain.cons (stepAt_unary 3864 _ _ _ rfl (by decide)) <|
  Chain.cons (stepAt_unary 3865 _ _ _ rfl (by decide)) <|
  Chain.cons (stepAt_binary 3866 _ _ _ _ rfl (by decide) (by decide)) <|
  Chain.nil
theorem hostOps0_165_length : (hostOps0_165 : List (HloOp τ sig (Elt F))).length = 6 := rfl

set_option maxHeartbeats 4000000 in
/-- Operations 3839 … 3843 of the program, writing buffers 3867 … 3871. -/
theorem hostOps0_166_chain : Chain 3867 (hostOps0_166 : List (HloOp τ sig (Elt F))) :=
  Chain.cons (stepAt_nullary 3867 _ _ rfl) <|
  Chain.cons (stepAt_unary 3868 _ _ _ rfl (by decide)) <|
  Chain.cons (stepAt_binary 3869 _ _ _ _ rfl (by decide) (by decide)) <|
  Chain.cons (stepAt_nullary 3870 _ _ rfl) <|
  Chain.cons (stepAt_nullary 3871 _ _ rfl) <|
  Chain.nil
theorem hostOps0_166_length : (hostOps0_166 : List (HloOp τ sig (Elt F))).length = 5 := rfl

set_option maxHeartbeats 4000000 in
/-- Operations 3844 … 3849 of the program, writing buffers 3872 … 3877. -/
theorem hostOps0_167_chain : Chain 3872 (hostOps0_167 : List (HloOp τ sig (Elt F))) :=
  Chain.cons (stepAt_unary 3872 _ _ _ rfl (by decide)) <|
  Chain.cons (stepAt_unary 3873 _ _ _ rfl (by decide)) <|
  Chain.cons (stepAt_binary 3874 _ _ _ _ rfl (by decide) (by decide)) <|
  Chain.cons (stepAt_unary 3875 _ _ _ rfl (by decide)) <|
  Chain.cons (stepAt_unary 3876 _ _ _ rfl (by decide)) <|
  Chain.cons (stepAt_binary 3877 _ _ _ _ rfl (by decide) (by decide)) <|
  Chain.nil
theorem hostOps0_167_length : (hostOps0_167 : List (HloOp τ sig (Elt F))).length = 6 := rfl

set_option maxHeartbeats 4000000 in
/-- Operations 3850 … 3999 of the program, writing buffers 3878 … 4027. -/
theorem hostOps0_168_chain : Chain 3878 (hostOps0_168 : List (HloOp τ sig (Elt F))) :=
  Chain.cons (stepAt_nullary 3878 _ _ rfl) <|
  Chain.cons (stepAt_unary 3879 _ _ _ rfl (by decide)) <|
  Chain.cons (stepAt_binary 3880 _ _ _ _ rfl (by decide) (by decide)) <|
  Chain.cons (stepAt_nullary 3881 _ _ rfl) <|
  Chain.cons (stepAt_unary 3882 _ _ _ rfl (by decide)) <|
  Chain.cons (stepAt_binary 3883 _ _ _ _ rfl (by decide) (by decide)) <|
  Chain.cons (stepAt_ternary 3884 _ _ _ _ _ rfl (by decide) (by decide) (by decide)) <|
  Chain.cons (stepAt_nullary 3885 _ _ rfl) <|
  Chain.cons (stepAt_unary 3886 _ _ _ rfl (by decide)) <|
  Chain.cons (stepAt_binary 3887 _ _ _ _ rfl (by decide) (by decide)) <|
  Chain.cons (stepAt_nullary 3888 _ _ rfl) <|
  Chain.cons (stepAt_unary 3889 _ _ _ rfl (by decide)) <|
  Chain.cons (stepAt_binary 3890 _ _ _ _ rfl (by decide) (by decide)) <|
  Chain.cons (stepAt_ternary 3891 _ _ _ _ _ rfl (by decide) (by decide) (by decide)) <|
  Chain.cons (stepAt_unary 3892 _ _ _ rfl (by decide)) <|
  Chain.cons (stepAt_unary 3893 _ _ _ rfl (by decide)) <|
  Chain.cons (stepAt_binary 3894 _ _ _ _ rfl (by decide) (by decide)) <|
  Chain.cons (stepAt_binary 3895 _ _ _ _ rfl (by decide) (by decide)) <|
  Chain.cons (stepAt_nullary 3896 _ _ rfl) <|
  Chain.cons (stepAt_unary 3897 _ _ _ rfl (by decide)) <|
  Chain.cons (stepAt_binary 3898 _ _ _ _ rfl (by decide) (by decide)) <|
  Chain.cons (stepAt_nullary 3899 _ _ rfl) <|
  Chain.cons (stepAt_unary 3900 _ _ _ rfl (by decide)) <|
  Chain.cons (stepAt_binary 3901 _ _ _ _ rfl (by decide) (by decide)) <|
  Chain.cons (stepAt_ternary 3902 _ _ _ _ _ rfl (by decide) (by decide) (by decide)) <|
  Chain.cons (stepAt_nullary 3903 _ _ rfl) <|
  Chain.cons (stepAt_unary 3904 _ _ _ rfl (by decide)) <|
  Chain.cons (stepAt_binary 3905 _ _ _ _ rfl (by decide) (by decide)) <|
  Chain.cons (stepAt_nullary 3906 _ _ rfl) <|
  Chain.cons (stepAt_unary 3907 _ _ _ rfl (by decide)) <|
  Chain.cons (stepAt_binary 3908 _ _ _ _ rfl (by decide) (by decide)) <|
  Chain.cons (stepAt_ternary 3909 _ _ _ _ _ rfl (by decide) (by decide) (by decide)) <|
  Chain.cons (stepAt_unary 3910 _ _ _ rfl (by decide)) <|
  Chain.cons (stepAt_unary 3911 _ _ _ rfl (by decide)) <|
  Chain.cons (stepAt_binary 3912 _ _ _ _ rfl (by decide) (by decide)) <|
  Chain.cons (stepAt_binary 3913 _ _ _ _ rfl (by decide) (by decide)) <|
  Chain.cons (stepAt_nullary 3914 _ _ rfl) <|
  Chain.cons (stepAt_unary 3915 _ _ _ rfl (by decide)) <|
  Chain.cons (stepAt_binary 3916 _ _ _ _ rfl (by decide) (by decide)) <|
  Chain.cons (stepAt_nullary 3917 _ _ rfl) <|
  Chain.cons (stepAt_unary 3918 _ _ _ rfl (by decide)) <|
  Chain.cons (stepAt_binary 3919 _ _ _ _ rfl (by decide) (by decide)) <|
  Chain.cons (stepAt_ternary 3920 _ _ _ _ _ rfl (by decide) (by decide) (by decide)) <|
  Chain.cons (stepAt_nullary 3921 _ _ rfl) <|
  Chain.cons (stepAt_unary 3922 _ _ _ rfl (by decide)) <|
  Chain.cons (stepAt_binary 3923 _ _ _ _ rfl (by decide) (by decide)) <|
  Chain.cons (stepAt_nullary 3924 _ _ rfl) <|
  Chain.cons (stepAt_unary 3925 _ _ _ rfl (by decide)) <|
  Chain.cons (stepAt_binary 3926 _ _ _ _ rfl (by decide) (by decide)) <|
  Chain.cons (stepAt_ternary 3927 _ _ _ _ _ rfl (by decide) (by decide) (by decide)) <|
  Chain.cons (stepAt_unary 3928 _ _ _ rfl (by decide)) <|
  Chain.cons (stepAt_unary 3929 _ _ _ rfl (by decide)) <|
  Chain.cons (stepAt_binary 3930 _ _ _ _ rfl (by decide) (by decide)) <|
  Chain.cons (stepAt_binary 3931 _ _ _ _ rfl (by decide) (by decide)) <|
  Chain.cons (stepAt_nullary 3932 _ _ rfl) <|
  Chain.cons (stepAt_unary 3933 _ _ _ rfl (by decide)) <|
  Chain.cons (stepAt_binary 3934 _ _ _ _ rfl (by decide) (by decide)) <|
  Chain.cons (stepAt_nullary 3935 _ _ rfl) <|
  Chain.cons (stepAt_unary 3936 _ _ _ rfl (by decide)) <|
  Chain.cons (stepAt_binary 3937 _ _ _ _ rfl (by decide) (by decide)) <|
  Chain.cons (stepAt_ternary 3938 _ _ _ _ _ rfl (by decide) (by decide) (by decide)) <|
  Chain.cons (stepAt_nullary 3939 _ _ rfl) <|
  Chain.cons (stepAt_unary 3940 _ _ _ rfl (by decide)) <|
  Chain.cons (stepAt_binary 3941 _ _ _ _ rfl (by decide) (by decide)) <|
  Chain.cons (stepAt_nullary 3942 _ _ rfl) <|
  Chain.cons (stepAt_unary 3943 _ _ _ rfl (by decide)) <|
  Chain.cons (stepAt_binary 3944 _ _ _ _ rfl (by decide) (by decide)) <|
  Chain.cons (stepAt_ternary 3945 _ _ _ _ _ rfl (by decide) (by decide) (by decide)) <|
  Chain.cons (stepAt_unary 3946 _ _ _ rfl (by decide)) <|
  Chain.cons (stepAt_unary 3947 _ _ _ rfl (by decide)) <|
  Chain.cons (stepAt_binary 3948 _ _ _ _ rfl (by decide) (by decide)) <|
  Chain.cons (stepAt_binary 3949 _ _ _ _ rfl (by decide) (by decide)) <|
  Chain.cons (stepAt_nullary 3950 _ _ rfl) <|
  Chain.cons (stepAt_unary 3951 _ _ _ rfl (by decide)) <|
  Chain.cons (stepAt_binary 3952 _ _ _ _ rfl (by decide) (by decide)) <|
  Chain.cons (stepAt_unary 3953 _ _ _ rfl (by decide)) <|
  Chain.cons (stepAt_unary 3954 _ _ _ rfl (by decide)) <|
  Chain.cons (stepAt_binary 3955 _ _ _ _ rfl (by decide) (by decide)) <|
  Chain.cons (stepAt_nullary 3956 _ _ rfl) <|
  Chain.cons (stepAt_unary 3957 _ _ _ rfl (by decide)) <|
  Chain.cons (stepAt_binary 3958 _ _ _ _ rfl (by decide) (by decide)) <|
  Chain.cons (stepAt_unary 3959 _ _ _ rfl (by decide)) <|
  Chain.cons (stepAt_unary 3960 _ _ _ rfl (by decide)) <|
  Chain.cons (stepAt_binary 3961 _ _ _ _ rfl (by decide) (by decide)) <|
  Chain.cons (stepAt_unary 3962 _ _ _ rfl (by decide)) <|
  Chain.cons (stepAt_unary 3963 _ _ _ rfl (by decide)) <|
  Chain.cons (stepAt_binary 3964 _ _ _ _ rfl (by decide) (by decide)) <|
  Chain.cons (stepAt_nullary 3965 _ _ rfl) <|
  Chain.cons (stepAt_unary 3966 _ _ _ rfl (by decide)) <|
  Chain.cons (stepAt_binary 3967 _ _ _ _ rfl (by decide) (by decide)) <|
  Chain.cons (stepAt_unary 3968 _ _ _ rfl (by decide)) <|
  Chain.cons (stepAt_unary 3969 _ _ _ rfl (by decide)) <|
  Chain.cons (stepAt_binary 3970 _ _ _ _ rfl (by decide) (by decide)) <|
  Chain.cons (stepAt_binary 3971 _ _ _ _ rfl (by decide) (by decide)) <|
  Chain.cons (stepAt_nullary 3972 _ _ rfl) <|
  Chain.cons (stepAt_unary 3973 _ _ _ rfl (by decide)) <|
  Chain.cons (stepAt_binary 3974 _ _ _ _ rfl (by decide) (by decide)) <|
  Chain.cons (stepAt_unary 3975 _ _ _ rfl (by decide)) <|
  Chain.cons (stepAt_unary 3976 _ _ _ rfl (by decide)) <|
  Chain.cons (stepAt_binary 3977 _ _ _ _ rfl (by decide) (by decide)) <|
  Chain.cons (stepAt_unary 3978 _ _ _ rfl (by decide)) <|
  Chain.cons (stepAt_unary 3979 _ _ _ rfl (by decide)) <|
  Chain.cons (stepAt_binary 3980 _ _ _ _ rfl (by decide) (by decide)) <|
  Chain.cons (stepAt_binary 3981 _ _ _ _ rfl (by decide) (by decide)) <|
  Chain.cons (stepAt_unary 3982 _ _ _ rfl (by decide)) <|
  Chain.cons (stepAt_unary 3983 _ _ _ rfl (by decide)) <|
  Chain.cons (stepAt_binary 3984 _ _ _ _ rfl (by decide) (by decide)) <|
  Chain.cons (stepAt_unary 3985 _ _ _ rfl (by decide)) <|
  Chain.cons (stepAt_unary 3986 _ _ _ rfl (by decide)) <|
  Chain.cons (stepAt_binary 3987 _ _ _ _ rfl (by decide) (by decide)) <|
  Chain.cons (stepAt_binary 3988 _ _ _ _ rfl (by decide) (by decide)) <|
  Chain.cons (stepAt_unary 3989 _ _ _ rfl (by decide)) <|
  Chain.cons (stepAt_nullary 3990 _ _ rfl) <|
  Chain.cons (stepAt_unary 3991 _ _ _ rfl (by decide)) <|
  Chain.cons (stepAt_binary 3992 _ _ _ _ rfl (by decide) (by decide)) <|
  Chain.cons (stepAt_nullary 3993 _ _ rfl) <|
  Chain.cons (stepAt_unary 3994 _ _ _ rfl (by decide)) <|
  Chain.cons (stepAt_binary 3995 _ _ _ _ rfl (by decide) (by decide)) <|
  Chain.cons (stepAt_ternary 3996 _ _ _ _ _ rfl (by decide) (by decide) (by decide)) <|
  Chain.cons (stepAt_unary 3997 _ _ _ rfl (by decide)) <|
  Chain.cons (stepAt_binary 3998 _ _ _ _ rfl (by decide) (by decide)) <|
  Chain.cons (stepAt_unary 3999 _ _ _ rfl (by decide)) <|
  Chain.cons (stepAt_reshape 4000 _ _ _ _ rfl (by decide)) <|
  Chain.cons (stepAt_nullary 4001 _ _ rfl) <|
  Chain.cons (stepAt_unary 4002 _ _ _ rfl (by decide)) <|
  Chain.cons (stepAt_binary 4003 _ _ _ _ rfl (by decide) (by decide)) <|
  Chain.cons (stepAt_nullary 4004 _ _ rfl) <|
  Chain.cons (stepAt_unary 4005 _ _ _ rfl (by decide)) <|
  Chain.cons (stepAt_binary 4006 _ _ _ _ rfl (by decide) (by decide)) <|
  Chain.cons (stepAt_nullary 4007 _ _ rfl) <|
  Chain.cons (stepAt_unary 4008 _ _ _ rfl (by decide)) <|
  Chain.cons (stepAt_binary 4009 _ _ _ _ rfl (by decide) (by decide)) <|
  Chain.cons (stepAt_unary 4010 _ _ _ rfl (by decide)) <|
  Chain.cons (stepAt_reshape 4011 _ _ _ _ rfl (by decide)) <|
  Chain.cons (stepAt_nullary 4012 _ _ rfl) <|
  Chain.cons (stepAt_unary 4013 _ _ _ rfl (by decide)) <|
  Chain.cons (stepAt_binary 4014 _ _ _ _ rfl (by decide) (by decide)) <|
  Chain.cons (stepAt_nullary 4015 _ _ rfl) <|
  Chain.cons (stepAt_unary 4016 _ _ _ rfl (by decide)) <|
  Chain.cons (stepAt_binary 4017 _ _ _ _ rfl (by decide) (by decide)) <|
  Chain.cons (stepAt_nullary 4018 _ _ rfl) <|
  Chain.cons (stepAt_unary 4019 _ _ _ rfl (by decide)) <|
  Chain.cons (stepAt_binary 4020 _ _ _ _ rfl (by decide) (by decide)) <|
  Chain.cons (stepAt_unary 4021 _ _ _ rfl (by decide)) <|
  Chain.cons (stepAt_unary 4022 _ _ _ rfl (by decide)) <|
  Chain.cons (stepAt_binary 4023 _ _ _ _ rfl (by decide) (by decide)) <|
  Chain.cons (stepAt_binary 4024 _ _ _ _ rfl (by decide) (by decide)) <|
  Chain.cons (stepAt_unary 4025 _ _ _ rfl (by decide)) <|
  Chain.cons (stepAt_nullary 4026 _ _ rfl) <|
  Chain.cons (stepAt_nullary 4027 _ _ rfl) <|
  Chain.nil
theorem hostOps0_168_length : (hostOps0_168 : List (HloOp τ sig (Elt F))).length = 150 := rfl

set_option maxHeartbeats 4000000 in
/-- Operations 4000 … 4005 of the program, writing buffers 4028 … 4033. -/
theorem hostOps0_169_chain : Chain 4028 (hostOps0_169 : List (HloOp τ sig (Elt F))) :=
  Chain.cons (stepAt_unary 4028 _ _ _ rfl (by decide)) <|
  Chain.cons (stepAt_unary 4029 _ _ _ rfl (by decide)) <|
  Chain.cons (stepAt_binary 4030 _ _ _ _ rfl (by decide) (by decide)) <|
  Chain.cons (stepAt_unary 4031 _ _ _ rfl (by decide)) <|
  Chain.cons (stepAt_unary 4032 _ _ _ rfl (by decide)) <|
  Chain.cons (stepAt_binary 4033 _ _ _ _ rfl (by decide) (by decide)) <|
  Chain.nil
theorem hostOps0_169_length : (hostOps0_169 : List (HloOp τ sig (Elt F))).length = 6 := rfl

set_option maxHeartbeats 4000000 in
/-- Operations 4006 … 4010 of the program, writing buffers 4034 … 4038. -/
theorem hostOps0_170_chain : Chain 4034 (hostOps0_170 : List (HloOp τ sig (Elt F))) :=
  Chain.cons (stepAt_nullary 4034 _ _ rfl) <|
  Chain.cons (stepAt_unary 4035 _ _ _ rfl (by decide)) <|
  Chain.cons (stepAt_binary 4036 _ _ _ _ rfl (by decide) (by decide)) <|
  Chain.cons (stepAt_nullary 4037 _ _ rfl) <|
  Chain.cons (stepAt_nullary 4038 _ _ rfl) <|
  Chain.nil
theorem hostOps0_170_length : (hostOps0_170 : List (HloOp τ sig (Elt F))).length = 5 := rfl

set_option maxHeartbeats 4000000 in
/-- Operations 4011 … 4016 of the program, writing buffers 4039 … 4044. -/
theorem hostOps0_171_chain : Chain 4039 (hostOps0_171 : List (HloOp τ sig (Elt F))) :=
  Chain.cons (stepAt_unary 4039 _ _ _ rfl (by decide)) <|
  Chain.cons (stepAt_unary 4040 _ _ _ rfl (by decide)) <|
  Chain.cons (stepAt_binary 4041 _ _ _ _ rfl (by decide) (by decide)) <|
  Chain.cons (stepAt_unary 4042 _ _ _ rfl (by decide)) <|
  Chain.cons (stepAt_unary 4043 _ _ _ rfl (by decide)) <|
  Chain.cons (stepAt_binary 4044 _ _ _ _ rfl (by decide) (by decide)) <|
  Chain.nil
theorem hostOps0_171_length : (hostOps0_171 : List (HloOp τ sig (Elt F))).length = 6 := rfl

set_option maxHeartbeats 4000000 in
/-- Operations 4017 … 4019 of the program, writing buffers 4045 … 4047. -/
theorem hostOps0_172_chain : Chain 4045 (hostOps0_172 : List (HloOp τ sig (Elt F))) :=
  Chain.cons (stepAt_unary 4045 _ _ _ rfl (by decide)) <|
  Chain.cons (stepAt_nullary 4046 _ _ rfl) <|
  Chain.cons (stepAt_nullary 4047 _ _ rfl) <|
  Chain.nil
theorem hostOps0_172_length : (hostOps0_172 : List (HloOp τ sig (Elt F))).length = 3 := rfl

set_option maxHeartbeats 4000000 in
/-- Operations 4020 … 4025 of the program, writing buffers 4048 … 4053. -/
theorem hostOps0_173_chain : Chain 4048 (hostOps0_173 : List (HloOp τ sig (Elt F))) :=
  Chain.cons (stepAt_unary 4048 _ _ _ rfl (by decide)) <|
  Chain.cons (stepAt_unary 4049 _ _ _ rfl (by decide)) <|
  Chain.cons (stepAt_binary 4050 _ _ _ _ rfl (by decide) (by decide)) <|
  Chain.cons (stepAt_unary 4051 _ _ _ rfl (by decide)) <|
  Chain.cons (stepAt_unary 4052 _ _ _ rfl (by decide)) <|
  Chain.cons (stepAt_binary 4053 _ _ _ _ rfl (by decide) (by decide)) <|
  Chain.nil
theorem hostOps0_173_length : (hostOps0_173 : List (HloOp τ sig (Elt F))).length = 6 := rfl

set_option maxHeartbeats 4000000 in
/-- Operations 4026 … 4030 of the program, writing buffers 4054 … 4058. -/
theorem hostOps0_174_chain : Chain 4054 (hostOps0_174 : List (HloOp τ sig (Elt F))) :=
  Chain.cons (stepAt_nullary 4054 _ _ rfl) <|
  Chain.cons (stepAt_unary 4055 _ _ _ rfl (by decide)) <|
  Chain.cons (stepAt_binary 4056 _ _ _ _ rfl (by decide) (by decide)) <|
  Chain.cons (stepAt_nullary 4057 _ _ rfl) <|
  Chain.cons (stepAt_nullary 4058 _ _ rfl) <|
  Chain.nil
theorem hostOps0_174_length : (hostOps0_174 : List (HloOp τ sig (Elt F))).length = 5 := rfl

set_option maxHeartbeats 4000000 in
/-- Operations 4031 … 4036 of the program, writing buffers 4059 … 4064. -/
theorem hostOps0_175_chain : Chain 4059 (hostOps0_175 : List (HloOp τ sig (Elt F))) :=
  Chain.cons (stepAt_unary 4059 _ _ _ rfl (by decide)) <|
  Chain.cons (stepAt_unary 4060 _ _ _ rfl (by decide)) <|
  Chain.cons (stepAt_binary 4061 _ _ _ _ rfl (by decide) (by decide)) <|
  Chain.cons (stepAt_unary 4062 _ _ _ rfl (by decide)) <|
  Chain.cons (stepAt_unary 4063 _ _ _ rfl (by decide)) <|
  Chain.cons (stepAt_binary 4064 _ _ _ _ rfl (by decide) (by decide)) <|
  Chain.nil
theorem hostOps0_175_length : (hostOps0_175 : List (HloOp τ sig (Elt F))).length = 6 := rfl

set_option maxHeartbeats 4000000 in
/-- Operations 4037 … 4186 of the program, writing buffers 4065 … 4214. -/
theorem hostOps0_176_chain : Chain 4065 (hostOps0_176 : List (HloOp τ sig (Elt F))) :=
  Chain.cons (stepAt_nullary 4065 _ _ rfl) <|
  Chain.cons (stepAt_unary 4066 _ _ _ rfl (by decide)) <|
  Chain.cons (stepAt_binary 4067 _ _ _ _ rfl (by decide) (by decide)) <|
  Chain.cons (stepAt_nullary 4068 _ _ rfl) <|
  Chain.cons (stepAt_unary 4069 _ _ _ rfl (by decide)) <|
  Chain.cons (stepAt_binary 4070 _ _ _ _ rfl (by decide) (by decide)) <|
  Chain.cons (stepAt_ternary 4071 _ _ _ _ _ rfl (by decide) (by decide) (by decide)) <|
  Chain.cons (stepAt_nullary 4072 _ _ rfl) <|
  Chain.cons (stepAt_unary 4073 _ _ _ rfl (by decide)) <|
  Chain.cons (stepAt_binary 4074 _ _ _ _ rfl (by decide) (by decide)) <|
  Chain.cons (stepAt_nullary 4075 _ _ rfl) <|
  Chain.cons (stepAt_unary 4076 _ _ _ rfl (by decide)) <|
  Chain.cons (stepAt_binary 4077 _ _ _ _ rfl (by decide) (by decide)) <|
  Chain.cons (stepAt_ternary 4078 _ _ _ _ _ rfl (by decide) (by decide) (by decide)) <|
  Chain.cons (stepAt_unary 4079 _ _ _ rfl (by decide)) <|
  Chain.cons (stepAt_unary 4080 _ _ _ rfl (by decide)) <|
  Chain.cons (stepAt_binary 4081 _ _ _ _ rfl (by decide) (by decide)) <|
  Chain.cons (stepAt_binary 4082 _ _ _ _ rfl (by decide) (by decide)) <|
  Chain.cons (stepAt_nullary 4083 _ _ rfl) <|
  Chain.cons (stepAt_unary 4084 _ _ _ rfl (by decide)) <|
  Chain.cons (stepAt_binary 4085 _ _ _ _ rfl (by decide) (by decide)) <|
  Chain.cons (stepAt_nullary 4086 _ _ rfl) <|
  Chain.cons (stepAt_unary 4087 _ _ _ rfl (by decide)) <|
  Chain.cons (stepAt_binary 4088 _ _ _ _ rfl (by decide) (by decide)) <|
  Chain.cons (stepAt_ternary 4089 _ _ _ _ _ rfl (by decide) (by decide) (by decide)) <|
  Chain.cons (stepAt_nullary 4090 _ _ rfl) <|
  Chain.cons (stepAt_unary 4091 _ _ _ rfl (by decide)) <|
  Chain.cons (stepAt_binary 4092 _ _ _ _ rfl (by decide) (by decide)) <|
  Chain.cons (stepAt_nullary 4093 _ _ rfl) <|
  Chain.cons (stepAt_unary 4094 _ _ _ rfl (by decide)) <|
  Chain.cons (stepAt_binary 4095 _ _ _ _ rfl (by decide) (by decide)) <|
  Chain.cons (stepAt_ternary 4096 _ _ _ _ _ rfl (by decide) (by decide) (by decide)) <|
  Chain.cons (stepAt_unary 4097 _ _ _ rfl (by decide)) <|
  Chain.cons (stepAt_unary 4098 _ _ _ rfl (by decide)) <|
  Chain.cons (stepAt_binary 4099 _ _ _ _ rfl (by decide) (by decide)) <|
  Chain.cons (stepAt_binary 4100 _ _ _ _ rfl (by decide) (by decide)) <|
  Chain.cons (stepAt_nullary 4101 _ _ rfl) <|
  Chain.cons (stepAt_unary 4102 _ _ _ rfl (by decide)) <|
  Chain.cons (stepAt_binary 4103 _ _ _ _ rfl (by decide) (by decide)) <|
  Chain.cons (stepAt_nullary 4104 _ _ rfl) <|
  Chain.cons (stepAt_unary 4105 _ _ _ rfl (by decide)) <|
  Chain.cons (stepAt_binary 4106 _ _ _ _ rfl (by decide) (by decide)) <|
  Chain.cons (stepAt_ternary 4107 _ _ _ _ _ rfl (by decide) (by decide) (by decide)) <|
  Chain.cons (stepAt_nullary 4108 _ _ rfl) <|
  Chain.cons (stepAt_unary 4109 _ _ _ rfl (by decide)) <|
  Chain.cons (stepAt_binary 4110 _ _ _ _ rfl (by decide) (by decide)) <|
  Chain.cons (stepAt_nullary 4111 _ _ rfl) <|
  Chain.cons (stepAt_unary 4112 _ _ _ rfl (by decide)) <|
  Chain.cons (stepAt_binary 4113 _ _ _ _ rfl (by decide) (by decide)) <|
  Chain.cons (stepAt_ternary 4114 _ _ _ _ _ rfl (by decide) (by decide) (by decide)) <|
  Chain.cons (stepAt_unary 4115 _ _ _ rfl (by decide)) <|
  Chain.cons (stepAt_unary 4116 _ _ _ rfl (by decide)) <|
  Chain.cons (stepAt_binary 4117 _ _ _ _ rfl (by decide) (by decide)) <|
  Chain.cons (stepAt_binary 4118 _ _ _ _ rfl (by decide) (by decide)) <|
  Chain.cons (stepAt_nullary 4119 _ _ rfl) <|
  Chain.cons (stepAt_unary 4120 _ _ _ rfl (by decide)) <|
  Chain.cons (stepAt_binary 4121 _ _ _ _ rfl (by decide) (by decide)) <|
  Chain.cons (stepAt_nullary 4122 _ _ rfl) <|
  Chain.cons (stepAt_unary 4123 _ _ _ rfl (by decide)) <|
  Chain.cons (stepAt_binary 4124 _ _ _ _ rfl (by decide) (by decide)) <|
  Chain.cons (stepAt_ternary 4125 _ _ _ _ _ rfl (by decide) (by decide) (by decide)) <|
  Chain.cons (stepAt_nullary 4126 _ _ rfl) <|
  Chain.cons (stepAt_unary 4127 _ _ _ rfl (by decide)) <|
  Chain.cons (stepAt_binary 4128 _ _ _ _ rfl (by decide) (by decide)) <|
  Chain.cons (stepAt_nullary 4129 _ _ rfl) <|
  Chain.cons (stepAt_unary 4130 _ _ _ rfl (by decide)) <|
  Chain.cons (stepAt_binary 4131 _ _ _ _ rfl (by decide) (by decide)) <|
  Chain.cons (stepAt_ternary 4132 _ _ _ _ _ rfl (by decide) (by decide) (by decide)) <|
  Chain.cons (stepAt_unary 4133 _ _ _ rfl (by decide)) <|
  Chain.cons (stepAt_unary 4134 _ _ _ rfl (by decide)) <|
  Chain.cons (stepAt_binary 4135 _ _ _ _ rfl (by decide) (by decide)) <|
  Chain.cons (stepAt_binary 4136 _ _ _ _ rfl (by decide) (by decide)) <|
  Chain.cons (stepAt_nullary 4137 _ _ rfl) <|
  Chain.cons (stepAt_unary 4138 _ _ _ rfl (by decide)) <|
  Chain.cons (stepAt_binary 4139 _ _ _ _ rfl (by decide) (by decide)) <|
  Chain.cons (stepAt_unary 4140 _ _ _ rfl (by decide)) <|
  Chain.cons (stepAt_unary 4141 _ _ _ rfl (by decide)) <|
  Chain.cons (stepAt_binary 4142 _ _ _ _ rfl (by decide) (by decide)) <|
  Chain.cons (stepAt_nullary 4143 _ _ rfl) <|
  Chain.cons (stepAt_unary 4144 _ _ _ rfl (by decide)) <|
  Chain.cons (stepAt_binary 4145 _ _ _ _ rfl (by decide) (by decide)) <|
  Chain.cons (stepAt_unary 4146 _ _ _ rfl (by decide)) <|
  Chain.cons (stepAt_unary 4147 _ _ _ rfl (by decide)) <|
  Chain.cons (stepAt_binary 4148 _ _ _ _ rfl (by decide) (by decide)) <|
  Chain.cons (stepAt_unary 4149 _ _ _ rfl (by decide)) <|
  Chain.cons (stepAt_unary 4150 _ _ _ rfl (by decide)) <|
  Chain.cons (stepAt_binary 4151 _ _ _ _ rfl (by decide) (by decide)) <|
  Chain.cons (stepAt_nullary 4152 _ _ rfl) <|
  Chain.cons (stepAt_unary 4153 _ _ _ rfl (by decide)) <|
  Chain.cons (stepAt_binary 4154 _ _ _ _ rfl (by decide) (by decide)) <|
  Chain.cons (stepAt_unary 4155 _ _ _ rfl (by decide)) <|
  Chain.cons (stepAt_unary 4156 _ _ _ rfl (by decide)) <|
  Chain.cons (stepAt_binary 4157 _ _ _ _ rfl (by decide) (by decide)) <|
  Chain.cons (stepAt_binary 4158 _ _ _ _ rfl (by decide) (by decide)) <|
  Chain.cons (stepAt_nullary 4159 _ _ rfl) <|
  Chain.cons (stepAt_unary 4160 _ _ _ rfl (by decide)) <|
  Chain.cons (stepAt_binary 4161 _ _ _ _ rfl (by decide) (by decide)) <|
  Chain.cons (stepAt_unary 4162 _ _ _ rfl (by decide)) <|
  Chain.cons (stepAt_unary 4163 _ _ _ rfl (by decide)) <|
  Chain.cons (stepAt_binary 4164 _ _ _ _ rfl (by decide) (by decide)) <|
  Chain.cons (stepAt_unary 4165 _ _ _ rfl (by decide)) <|
  Chain.cons (stepAt_unary 4166 _ _ _ rfl (by decide)) <|
  Chain.cons (stepAt_binary 4167 _ _ _ _ rfl (by decide) (by decide)) <|
  Chain.cons (stepAt_binary 4168 _ _ _ _ rfl (by decide) (by decide)) <|
  Chain.cons (stepAt_unary 4169 _ _ _ rfl (by decide)) <|
  Chain.cons (stepAt_unary 4170 _ _ _ rfl (by decide)) <|
  Chain.cons (stepAt_binary 4171 _ _ _ _ rfl (by decide) (by decide)) <|
  Chain.cons (stepAt_unary 4172 _ _ _ rfl (by decide)) <|
  Chain.cons (stepAt_unary 4173 _ _ _ rfl (by decide)) <|
  Chain.cons (stepAt_binary 4174 _ _ _ _ rfl (by decide) (by decide)) <|
  Chain.cons (stepAt_binary 4175 _ _ _ _ rfl (by decide) (by decide)) <|
  Chain.cons (stepAt_unary 4176 _ _ _ rfl (by decide)) <|
  Chain.cons (stepAt_nullary 4177 _ _ rfl) <|
  Chain.cons (stepAt_unary 4178 _ _ _ rfl (by decide)) <|
  Chain.cons (stepAt_binary 4179 _ _ _ _ rfl (by decide) (by decide)) <|
  Chain.cons (stepAt_nullary 4180 _ _ rfl) <|
  Chain.cons (stepAt_unary 4181 _ _ _ rfl (by decide)) <|
  Chain.cons (stepAt_binary 4182 _ _ _ _ rfl (by decide) (by decide)) <|
  Chain.cons (stepAt_ternary 4183 _ _ _ _ _ rfl (by decide) (by decide) (by decide)) <|
  Chain.cons (stepAt_unary 4184 _ _ _ rfl (by decide)) <|
  Chain.cons (stepAt_binary 4185 _ _ _ _ rfl (by decide) (by decide)) <|
  Chain.cons (stepAt_unary 4186 _ _ _ rfl (by decide)) <|
  Chain.cons (stepAt_reshape 4187 _ _ _ _ rfl (by decide)) <|
  Chain.cons (stepAt_nullary 4188 _ _ rfl) <|
  Chain.cons (stepAt_unary 4189 _ _ _ rfl (by decide)) <|
  Chain.cons (stepAt_binary 4190 _ _ _ _ rfl (by decide) (by decide)) <|
  Chain.cons (stepAt_nullary 4191 _ _ rfl) <|
  Chain.cons (stepAt_unary 4192 _ _ _ rfl (by decide)) <|
  Chain.cons (stepAt_binary 4193 _ _ _ _ rfl (by decide) (by decide)) <|
  Chain.cons (stepAt_nullary 4194 _ _ rfl) <|
  Chain.cons (stepAt_unary 4195 _ _ _ rfl (by decide)) <|
  Chain.cons (stepAt_binary 4196 _ _ _ _ rfl (by decide) (by decide)) <|
  Chain.cons (stepAt_unary 4197 _ _ _ rfl (by decide)) <|
  Chain.cons (stepAt_reshape 4198 _ _ _ _ rfl (by decide)) <|
  Chain.cons (stepAt_nullary 4199 _ _ rfl) <|
  Chain.cons (stepAt_unary 4200 _ _ _ rfl (by decide)) <|
  Chain.cons (stepAt_binary 4201 _ _ _ _ rfl (by decide) (by decide)) <|
  Chain.cons (stepAt_nullary 4202 _ _ rfl) <|
  Chain.cons (stepAt_unary 4203 _ _ _ rfl (by decide)) <|
  Chain.cons (stepAt_binary 4204 _ _ _ _ rfl (by decide) (by decide)) <|
  Chain.cons (stepAt_nullary 4205 _ _ rfl) <|
  Chain.cons (stepAt_unary 4206 _ _ _ rfl (by decide)) <|
  Chain.cons (stepAt_binary 4207 _ _ _ _ rfl (by decide) (by decide)) <|
  Chain.cons (stepAt_unary 4208 _ _ _ rfl (by decide)) <|
  Chain.cons (stepAt_unary 4209 _ _ _ rfl (by decide)) <|
  Chain.cons (stepAt_binary 4210 _ _ _ _ rfl (by decide) (by decide)) <|
  Chain.cons (stepAt_binary 4211 _ _ _ _ rfl (by decide) (by decide)) <|
  Chain.cons (stepAt_unary 4212 _ _ _ rfl (by decide)) <|
  Chain.cons (stepAt_nullary 4213 _ _ rfl) <|
  Chain.cons (stepAt_nullary 4214 _ _ rfl) <|
  Chain.nil
theorem hostOps0_176_length : (hostOps0_176 : List (HloOp τ sig (Elt F))).length = 150 := rfl

set_option maxHeartbeats 4000000 in
/-- Operations 4187 … 4192 of the program, writing buffers 4215 … 4220. -/
theorem hostOps0_177_chain : Chain 4215 (hostOps0_177 : List (HloOp τ sig (Elt F))) :=
  Chain.cons (stepAt_unary 4215 _ _ _ rfl (by decide)) <|
  Chain.cons (stepAt_unary 4216 _ _ _ rfl (by decide)) <|
  Chain.cons (stepAt_binary 4217 _ _ _ _ rfl (by decide) (by decide)) <|
  Chain.cons (stepAt_unary 4218 _ _ _ rfl (by decide)) <|
  Chain.cons (stepAt_unary 4219 _ _ _ rfl (by decide)) <|
  Chain.cons (stepAt_binary 4220 _ _ _ _ rfl (by decide) (by decide)) <|
  Chain.nil
theorem hostOps0_177_length : (hostOps0_177 : List (HloOp τ sig (Elt F))).length = 6 := rfl

set_option maxHeartbeats 4000000 in
/-- Operations 4193 … 4197 of the program, writing buffers 4221 … 4225. -/
theorem hostOps0_178_chain : Chain 4221 (hostOps0_178 : List (HloOp τ sig (Elt F))) :=
  Chain.cons (stepAt_nullary 4221 _ _ rfl) <|
  Chain.cons (stepAt_unary 4222 _ _ _ rfl (by decide)) <|
  Chain.cons (stepAt_binary 4223 _ _ _ _ rfl (by decide) (by decide)) <|
  Chain.cons (stepAt_nullary 4224 _ _ rfl) <|
  Chain.cons (stepAt_nullary 4225 _ _ rfl) <|
  Chain.nil
theorem hostOps0_178_length : (hostOps0_178 : List (HloOp τ sig (Elt F))).length = 5 := rfl

set_option maxHeartbeats 4000000 in
/-- Operations 4198 … 4203 of the program, writing buffers 4226 … 4231. -/
theorem hostOps0_179_chain : Chain 4226 (hostOps0_179 : List (HloOp τ sig (Elt F))) :=
  Chain.cons (stepAt_unary 4226 _ _ _ rfl (by decide)) <|
  Chain.cons (stepAt_unary 4227 _ _ _ rfl (by decide)) <|
  Chain.cons (stepAt_binary 4228 _ _ _ _ rfl (by decide) (by decide)) <|
  Chain.cons (stepAt_unary 4229 _ _ _ rfl (by decide)) <|
  Chain.cons (stepAt_unary 4230 _ _ _ rfl (by decide)) <|
  Chain.cons (stepAt_binary 4231 _ _ _ _ rfl (by decide) (by decide)) <|
  Chain.nil
theorem hostOps0_179_length : (hostOps0_179 : List (HloOp τ sig (Elt F))).length = 6 := rfl

set_option maxHeartbeats 4000000 in
/-- Operations 4204 … 4206 of the program, writing buffers 4232 … 4234. -/
theorem hostOps0_180_chain : Chain 4232 (hostOps0_180 : List (HloOp τ sig (Elt F))) :=
  Chain.cons (stepAt_unary 4232 _ _ _ rfl (by decide)) <|
  Chain.cons (stepAt_nullary 4233 _ _ rfl) <|
  Chain.cons (stepAt_nullary 4234 _ _ rfl) <|
  Chain.nil
theorem hostOps0_180_length : (hostOps0_180 : List (HloOp τ sig (Elt F))).length = 3 := rfl

set_option maxHeartbeats 4000000 in
/-- Operations 4207 … 4212 of the program, writing buffers 4235 … 4240. -/
theorem hostOps0_181_chain : Chain 4235 (hostOps0_181 : List (HloOp τ sig (Elt F))) :=
  Chain.cons (stepAt_unary 4235 _ _ _ rfl (by decide)) <|
  Chain.cons (stepAt_unary 4236 _ _ _ rfl (by decide)) <|
  Chain.cons (stepAt_binary 4237 _ _ _ _ rfl (by decide) (by decide)) <|
  Chain.cons (stepAt_unary 4238 _ _ _ rfl (by decide)) <|
  Chain.cons (stepAt_unary 4239 _ _ _ rfl (by decide)) <|
  Chain.cons (stepAt_binary 4240 _ _ _ _ rfl (by decide) (by decide)) <|
  Chain.nil
theorem hostOps0_181_length : (hostOps0_181 : List (HloOp τ sig (Elt F))).length = 6 := rfl

set_option maxHeartbeats 4000000 in
/-- Operations 4213 … 4217 of the program, writing buffers 4241 … 4245. -/
theorem hostOps0_182_chain : Chain 4241 (hostOps0_182 : List (HloOp τ sig (Elt F))) :=
  Chain.cons (stepAt_nullary 4241 _ _ rfl) <|
  Chain.cons (stepAt_unary 4242 _ _ _ rfl (by decide)) <|
  Chain.cons (stepAt_binary 4243 _ _ _ _ rfl (by decide) (by decide)) <|
  Chain.cons (stepAt_nullary 4244 _ _ rfl) <|
  Chain.cons (stepAt_nullary 4245 _ _ rfl) <|
  Chain.nil
theorem hostOps0_182_length : (hostOps0_182 : List (HloOp τ sig (Elt F))).length = 5 := rfl

set_option maxHeartbeats 4000000 in
/-- Operations 4218 … 4223 of the program, writing buffers 4246 … 4251. -/
theorem hostOps0_183_chain : Chain 4246 (hostOps0_183 : List (HloOp τ sig (Elt F))) :=
  Chain.cons (stepAt_unary 4246 _ _ _ rfl (by decide)) <|
  Chain.cons (stepAt_unary 4247 _ _ _ rfl (by decide)) <|
  Chain.cons (stepAt_binary 4248 _ _ _ _ rfl (by decide) (by decide)) <|
  Chain.cons (stepAt_unary 4249 _ _ _ rfl (by decide)) <|
  Chain.cons (stepAt_unary 4250 _ _ _ rfl (by decide)) <|
  Chain.cons (stepAt_binary 4251 _ _ _ _ rfl (by decide) (by decide)) <|
  Chain.nil
theorem hostOps0_183_length : (hostOps0_183 : List (HloOp τ sig (Elt F))).length = 6 := rfl

set_option maxHeartbeats 4000000 in
/-- Operations 4224 … 4373 of the program, writing buffers 4252 … 4401. -/
theorem hostOps0_184_chain : Chain 4252 (hostOps0_184 : List (HloOp τ sig (Elt F))) :=
  Chain.cons (stepAt_nullary 4252 _ _ rfl) <|
  Chain.cons (stepAt_unary 4253 _ _ _ rfl (by decide)) <|
  Chain.cons (stepAt_binary 4254 _ _ _ _ rfl (by decide) (by decide)) <|
  Chain.cons (stepAt_nullary 4255 _ _ rfl) <|
  Chain.cons (stepAt_unary 4256 _ _ _ rfl (by decide)) <|
  Chain.cons (stepAt_binary 4257 _ _ _ _ rfl (by decide) (by decide)) <|
  Chain.cons (stepAt_ternary 4258 _ _ _ _ _ rfl (by decide) (by decide) (by decide)) <|
  Chain.cons (stepAt_nullary 4259 _ _ rfl) <|
  Chain.cons (stepAt_unary 4260 _ _ _ rfl (by decide)) <|
  Chain.cons (stepAt_binary 4261 _ _ _ _ rfl (by decide) (by decide)) <|
  Chain.cons (stepAt_nullary 4262 _ _ rfl) <|
  Chain.cons (stepAt_unary 4263 _ _ _ rfl (by decide)) <|
  Chain.cons (stepAt_binary 4264 _ _ _ _ rfl (by decide) (by decide)) <|
  Chain.cons (stepAt_ternary 4265 _ _ _ _ _ rfl (by decide) (by decide) (by decide)) <|
  Chain.cons (stepAt_unary 4266 _ _ _ rfl (by decide)) <|
  Chain.cons (stepAt_unary 4267 _ _ _ rfl (by decide)) <|
  Chain.cons (stepAt_binary 4268 _ _ _ _ rfl (by decide) (by decide)) <|
  Chain.cons (stepAt_binary 4269 _ _ _ _ rfl (by decide) (by decide)) <|
  Chain.cons (stepAt_nullary 4270 _ _ rfl) <|
  Chain.cons (stepAt_unary 4271 _ _ _ rfl (by decide)) <|
  Chain.cons (stepAt_binary 4272 _ _ _ _ rfl (by decide) (by decide)) <|
  Chain.cons (stepAt_nullary 4273 _ _ rfl) <|
  Chain.cons (stepAt_unary 4274 _ _ _ rfl (by decide)) <|
  Chain.cons (stepAt_binary 4275 _ _ _ _ rfl (by decide) (by decide)) <|
  Chain.cons (stepAt_ternary 4276 _ _ _ _ _ rfl (by decide) (by decide) (by decide)) <|
  Chain.cons (stepAt_nullary 4277 _ _ rfl) <|
  Chain.cons (stepAt_unary 4278 _ _ _ rfl (by decide)) <|
  Chain.cons (stepAt_binary 4279 _ _ _ _ rfl (by decide) (by decide)) <|
  Chain.cons (stepAt_nullary 4280 _ _ rfl) <|
  Chain.cons (stepAt_unary 4281 _ _ _ rfl (by decide)) <|
  Chain.cons (stepAt_binary 4282 _ _ _ _ rfl (by decide) (by decide)) <|
  Chain.cons (stepAt_ternary 4283 _ _ _ _ _ rfl (by decide) (by decide) (by decide)) <|
  Chain.cons (stepAt_unary 4284 _ _ _ rfl (by decide)) <|
  Chain.cons (stepAt_unary 4285 _ _ _ rfl (by decide)) <|
  Chain.cons (stepAt_binary 4286 _ _ _ _ rfl (by decide) (by decide)) <|
  Chain.cons (stepAt_binary 4287 _ _ _ _ rfl (by decide) (by decide)) <|
  Chain.cons (stepAt_nullary 4288 _ _ rfl) <|
  Chain.cons (stepAt_unary 4289 _ _ _ rfl (by decide)) <|
  Chain.cons (stepAt_binary 4290 _ _ _ _ rfl (by decide) (by decide)) <|
  Chain.cons (stepAt_nullary 4291 _ _ rfl) <|
  Chain.cons (stepAt_unary 4292 _ _ _ rfl (by decide)) <|
  Chain.cons (stepAt_binary 4293 _ _ _ _ rfl (by decide) (by decide)) <|
  Chain.cons (stepAt_ternary 4294 _ _ _ _ _ rfl (by decide) (by decide) (by decide)) <|
  Chain.cons (stepAt_nullary 4295 _ _ rfl) <|
  Chain.cons (stepAt_unary 4296 _ _ _ rfl (by decide)) <|
  Chain.cons (stepAt_binary 4297 _ _ _ _ rfl (by decide) (by decide)) <|
  Chain.cons (stepAt_nullary 4298 _ _ rfl) <|
  Chain.cons (stepAt_unary 4299 _ _ _ rfl (by decide)) <|
  Chain.cons (stepAt_binary 4300 _ _ _ _ rfl (by decide) (by decide)) <|
  Chain.cons (stepAt_ternary 4301 _ _ _ _ _ rfl (by decide) (by decide) (by decide)) <|
  Chain.cons (stepAt_unary 4302 _ _ _ rfl (by decide)) <|
  Chain.cons (stepAt_unary 4303 _ _ _ rfl (by decide)) <|
  Chain.cons (stepAt_binary 4304 _ _ _ _ rfl (by decide) (by decide)) <|
  Chain.cons (stepAt_binary 4305 _ _ _ _ rfl (by decide) (by decide)) <|
  Chain.cons (stepAt_nullary 4306 _ _ rfl) <|
  Chain.cons (stepAt_unary 4307 _ _ _ rfl (by decide)) <|
  Chain.cons (stepAt_binary 4308 _ _ _ _ rfl (by decide) (by decide)) <|
  Chain.cons (stepAt_nullary 4309 _ _ rfl) <|
  Chain.cons (stepAt_unary 4310 _ _ _ rfl (by decide)) <|
  Chain.cons (stepAt_binary 4311 _ _ _ _ rfl (by decide) (by decide)) <|
  Chain.cons (stepAt_ternary 4312 _ _ _ _ _ rfl (by decide) (by decide) (by decide)) <|
  Chain.cons (stepAt_nullary 4313 _ _ rfl) <|
  Chain.cons (stepAt_unary 4314 _ _ _ rfl (by decide)) <|
  Chain.cons (stepAt_binary 4315 _ _ _ _ rfl (by decide) (by decide)) <|
  Chain.cons (stepAt_nullary 4316 _ _ rfl) <|
  Chain.cons (stepAt_unary 4317 _ _ _ rfl (by decide)) <|
  Chain.cons (stepAt_binary 4318 _ _ _ _ rfl (by decide) (by decide)) <|
  Chain.cons (stepAt_ternary 4319 _ _ _ _ _ rfl (by decide) (by decide) (by decide)) <|
  Chain.cons (stepAt_unary 4320 _ _ _ rfl (by decide)) <|
  Chain.cons (stepAt_unary 4321 _ _ _ rfl (by decide)) <|
  Chain.cons (stepAt_binary 4322 _ _ _ _ rfl (by decide) (by decide)) <|
  Chain.cons (stepAt_binary 4323 _ _ _ _ rfl (by decide) (by decide)) <|
  Chain.cons (stepAt_nullary 4324 _ _ rfl) <|
  Chain.cons (stepAt_unary 4325 _ _ _ rfl (by decide)) <|
  Chain.cons (stepAt_binary 4326 _ _ _ _ rfl (by decide) (by decide)) <|
  Chain.cons (stepAt_unary 4327 _ _ _ rfl (by decide)) <|
  Chain.cons (stepAt_unary 4328 _ _ _ rfl (by decide)) <|
  Chain.cons (stepAt_binary 4329 _ _ _ _ rfl (by decide) (by decide)) <|
  Chain.cons (stepAt_nullary 4330 _ _ rfl) <|
  Chain.cons (stepAt_unary 4331 _ _ _ rfl (by decide)) <|
  Chain.cons (stepAt_binary 4332 _ _ _ _ rfl (by decide) (by decide)) <|
  Chain.cons (stepAt_unary 4333 _ _ _ rfl (by decide)) <|
  Chain.cons (stepAt_unary 4334 _ _ _ rfl (by decide)) <|
  Chain.cons (stepAt_binary 4335 _ _ _ _ rfl (by decide) (by decide)) <|
  Chain.cons (stepAt_unary 4336 _ _ _ rfl (by decide)) <|
  Chain.cons (stepAt_unary 4337 _ _ _ rfl (by decide)) <|
  Chain.cons (stepAt_binary 4338 _ _ _ _ rfl (by decide) (by decide)) <|
  Chain.cons (stepAt_nullary 4339 _ _ rfl) <|
  Chain.cons (stepAt_unary 4340 _ _ _ rfl (by decide)) <|
  Chain.cons (stepAt_binary 4341 _ _ _ _ rfl (by decide) (by decide)) <|
  Chain.cons (stepAt_unary 4342 _ _ _ rfl (by decide)) <|
  Chain.cons (stepAt_unary 4343 _ _ _ rfl (by decide)) <|
  Chain.cons (stepAt_binary 4344 _ _ _ _ rfl (by decide) (by decide)) <|
  Chain.cons (stepAt_binary 4345 _ _ _ _ rfl (by decide) (by decide)) <|
  Chain.cons (stepAt_nullary 4346 _ _ rfl) <|
  Chain.cons (stepAt_unary 4347 _ _ _ rfl (by decide)) <|
  Chain.cons (stepAt_binary 4348 _ _ _ _ rfl (by decide) (by decide)) <|
  Chain.cons (stepAt_unary 4349 _ _ _ rfl (by decide)) <|
  Chain.cons (stepAt_unary 4350 _ _ _ rfl (by decide)) <|
  Chain.cons (stepAt_binary 4351 _ _ _ _ rfl (by decide) (by decide)) <|
  Chain.cons (stepAt_unary 4352 _ _ _ rfl (by decide)) <|
  Chain.cons (stepAt_unary 4353 _ _ _ rfl (by decide)) <|
  Chain.cons (stepAt_binary 4354 _ _ _ _ rfl (by decide) (by decide)) <|
  Chain.cons (stepAt_binary 4355 _ _ _ _ rfl (by decide) (by decide)) <|
  Chain.cons (stepAt_unary 4356 _ _ _ rfl (by decide)) <|
  Chain.cons (stepAt_unary 4357 _ _ _ rfl (by decide)) <|
  Chain.cons (stepAt_binary 4358 _ _ _ _ rfl (by decide) (by decide)) <|
  Chain.cons (stepAt_unary 4359 _ _ _ rfl (by decide)) <|
  Chain.cons (stepAt_unary 4360 _ _ _ rfl (by decide)) <|
  Chain.cons (stepAt_binary 4361 _ _ _ _ rfl (by decide) (by decide)) <|
  Chain.cons (stepAt_binary 4362 _ _ _ _ rfl (by decide) (by decide)) <|
  Chain.cons (stepAt_unary 4363 _ _ _ rfl (by decide)) <|
  Chain.cons (stepAt_nullary 4364 _ _ rfl) <|
  Chain.cons (stepAt_unary 4365 _ _ _ rfl (by decide)) <|
  Chain.cons (stepAt_binary 4366 _ _ _ _ rfl (by decide) (by decide)) <|
  Chain.cons (stepAt_nullary 4367 _ _ rfl) <|
  Chain.cons (stepAt_unary 4368 _ _ _ rfl (by decide)) <|
  Chain.cons (stepAt_binary 4369 _ _ _ _ rfl (by decide) (by decide)) <|
  Chain.cons (stepAt_ternary 4370 _ _ _ _ _ rfl (by decide) (by decide) (by decide)) <|
  Chain.cons (stepAt_unary 4371 _ _ _ rfl (by decide)) <|
  Chain.cons (stepAt_binary 4372 _ _ _ _ rfl (by decide) (by decide)) <|
  Chain.cons (stepAt_unary 4373 _ _ _ rfl (by decide)) <|
  Chain.cons (stepAt_reshape 4374 _ _ _ _ rfl (by decide)) <|
  Chain.cons (stepAt_nullary 4375 _ _ rfl) <|
  Chain.cons (stepAt_unary 4376 _ _ _ rfl (by decide)) <|
  Chain.cons (stepAt_binary 4377 _ _ _ _ rfl (by decide) (by decide)) <|
  Chain.cons (stepAt_nullary 4378 _ _ rfl) <|
  Chain.cons (stepAt_unary 4379 _ _ _ rfl (by decide)) <|
  Chain.cons (stepAt_binary 4380 _ _ _ _ rfl (by decide) (by decide)) <|
  Chain.cons (stepAt_nullary 4381 _ _ rfl) <|
  Chain.cons (stepAt_unary 4382 _ _ _ rfl (by decide)) <|
  Chain.cons (stepAt_binary 4383 _ _ _ _ rfl (by decide) (by decide)) <|
  Chain.cons (stepAt_unary 4384 _ _ _ rfl (by decide)) <|
  Chain.cons (stepAt_reshape 4385 _ _ _ _ rfl (by decide)) <|
  Chain.cons (stepAt_nullary 4386 _ _ rfl) <|
  Chain.cons (stepAt_unary 4387 _ _ _ rfl (by decide)) <|
  Chain.cons (stepAt_binary 4388 _ _ _ _ rfl (by decide) (by decide)) <|
  Chain.cons (stepAt_nullary 4389 _ _ rfl) <|
  Chain.cons (stepAt_unary 4390 _ _ _ rfl (by decide)) <|
  Chain.cons (stepAt_binary 4391 _ _ _ _ rfl (by decide) (by decide)) <|
  Chain.cons (stepAt_nullary 4392 _ _ rfl) <|
  Chain.cons (stepAt_unary 4393 _ _ _ rfl (by decide)) <|
  Chain.cons (stepAt_binary 4394 _ _ _ _ rfl (by decide) (by decide)) <|
  Chain.cons (stepAt_unary 4395 _ _ _ rfl (by decide)) <|
  Chain.cons (stepAt_unary 4396 _ _ _ rfl (by decide)) <|
  Chain.cons (stepAt_binary 4397 _ _ _ _ rfl (by decide) (by decide)) <|
  Chain.cons (stepAt_binary 4398 _ _ _ _ rfl (by decide) (by decide)) <|
  Chain.cons (stepAt_unary 4399 _ _ _ rfl (by decide)) <|
  Chain.cons (stepAt_nullary 4400 _ _ rfl) <|
  Chain.cons (stepAt_nullary 4401 _ _ rfl) <|
  Chain.nil
theorem hostOps0_184_length : (hostOps0_184 : List (HloOp τ sig (Elt F))).length = 150 := rfl

set_option maxHeartbeats 4000000 in
/-- Operations 4374 … 4379 of the program, writing buffers 4402 … 4407. -/
theorem hostOps0_185_chain : Chain 4402 (hostOps0_185 : List (HloOp τ sig (Elt F))) :=
  Chain.cons (stepAt_unary 4402 _ _ _ rfl (by decide)) <|
  Chain.cons (stepAt_unary 4403 _ _ _ rfl (by decide)) <|
  Chain.cons (stepAt_binary 4404 _ _ _ _ rfl (by decide) (by decide)) <|
  Chain.cons (stepAt_unary 4405 _ _ _ rfl (by decide)) <|
  Chain.cons (stepAt_unary 4406 _ _ _ rfl (by decide)) <|
  Chain.cons (stepAt_binary 4407 _ _ _ _ rfl (by decide) (by decide)) <|
  Chain.nil
theorem hostOps0_185_length : (hostOps0_185 : List (HloOp τ sig (Elt F))).length = 6 := rfl

set_option maxHeartbeats 4000000 in
/-- Operations 4380 … 4384 of the program, writing buffers 4408 … 4412. -/
theorem hostOps0_186_chain : Chain 4408 (hostOps0_186 : List (HloOp τ sig (Elt F))) :=
  Chain.cons (stepAt_nullary 4408 _ _ rfl) <|
  Chain.cons (stepAt_unary 4409 _ _ _ rfl (by decide)) <|
  Chain.cons (stepAt_binary 4410 _ _ _ _ rfl (by decide) (by decide)) <|
  Chain.cons (stepAt_nullary 4411 _ _ rfl) <|
  Chain.cons (stepAt_nullary 4412 _ _ rfl) <|
  Chain.nil
theorem hostOps0_186_length : (hostOps0_186 : List (HloOp τ sig (Elt F))).length = 5 := rfl

set_option maxHeartbeats 4000000 in
/-- Operations 4385 … 4390 of the program, writing buffers 4413 … 4418. -/
theorem hostOps0_187_chain : Chain 4413 (hostOps0_187 : List (HloOp τ sig (Elt F))) :=
  Chain.cons (stepAt_unary 4413 _ _ _ rfl (by decide)) <|
  Chain.cons (stepAt_unary 4414 _ _ _ rfl (by decide)) <|
  Chain.cons (stepAt_binary 4415 _ _ _ _ rfl (by decide) (by decide)) <|
  Chain.cons (stepAt_unary 4416 _ _ _ rfl (by decide)) <|
  Chain.cons (stepAt_unary 4417 _ _ _ rfl (by decide)) <|
  Chain.cons (stepAt_binary 4418 _ _ _ _ rfl (by decide) (by decide)) <|
  Chain.nil
theorem hostOps0_187_length : (hostOps0_187 : List (HloOp τ sig (Elt F))).length = 6 := rfl

set_option maxHeartbeats 4000000 in
/-- Operations 4391 … 4393 of the program, writing buffers 4419 … 4421. -/
theorem hostOps0_188_chain : Chain 4419 (hostOps0_188 : List (HloOp τ sig (Elt F))) :=
  Chain.cons (stepAt_unary 4419 _ _ _ rfl (by decide)) <|
  Chain.cons (stepAt_nullary 4420 _ _ rfl) <|
  Chain.cons (stepAt_nullary 4421 _ _ rfl) <|
  Chain.nil
theorem hostOps0_188_length : (hostOps0_188 : List (HloOp τ sig (Elt F))).length = 3 := rfl

set_option maxHeartbeats 4000000 in
/-- Operations 4394 … 4399 of the program, writing buffers 4422 … 4427. -/
theorem hostOps0_189_chain : Chain 4422 (hostOps0_189 : List (HloOp τ sig (Elt F))) :=
  Chain.cons (stepAt_unary 4422 _ _ _ rfl (by decide)) <|
  Chain.cons (stepAt_unary 4423 _ _ _ rfl (by decide)) <|
  Chain.cons (stepAt_binary 4424 _ _ _ _ rfl (by decide) (by decide)) <|
  Chain.cons (stepAt_unary 4425 _ _ _ rfl (by decide)) <|
  Chain.cons (stepAt_unary 4426 _ _ _ rfl (by decide)) <|
  Chain.cons (stepAt_binary 4427 _ _ _ _ rfl (by decide) (by decide)) <|
  Chain.nil
theorem hostOps0_189_length : (hostOps0_189 : List (HloOp τ sig (Elt F))).length = 6 := rfl

set_option maxHeartbeats 4000000 in
/-- Operations 4400 … 4404 of the program, writing buffers 4428 … 4432. -/
theorem hostOps0_190_chain : Chain 4428 (hostOps0_190 : List (HloOp τ sig (Elt F))) :=
  Chain.cons (stepAt_nullary 4428 _ _ rfl) <|
  Chain.cons (stepAt_unary 4429 _ _ _ rfl (by decide)) <|
  Chain.cons (stepAt_binary 4430 _ _ _ _ rfl (by decide) (by decide)) <|
  Chain.cons (stepAt_nullary 4431 _ _ rfl) <|
  Chain.cons (stepAt_nullary 4432 _ _ rfl) <|
  Chain.nil
theorem hostOps0_190_length : (hostOps0_190 : List (HloOp τ sig (Elt F))).length = 5 := rfl

set_option maxHeartbeats 4000000 in
/-- Operations 4405 … 4410 of the program, writing buffers 4433 … 4438. -/
theorem hostOps0_191_chain : Chain 4433 (hostOps0_191 : List (HloOp τ sig (Elt F))) :=
  Chain.cons (stepAt_unary 4433 _ _ _ rfl (by decide)) <|
  Chain.cons (stepAt_unary 4434 _ _ _ rfl (by decide)) <|
  Chain.cons (stepAt_binary 4435 _ _ _ _ rfl (by decide) (by decide)) <|
  Chain.cons (stepAt_unary 4436 _ _ _ rfl (by decide)) <|
  Chain.cons (stepAt_unary 4437 _ _ _ rfl (by decide)) <|
  Chain.cons (stepAt_binary 4438 _ _ _ _ rfl (by decide) (by decide)) <|
  Chain.nil
theorem hostOps0_191_length : (hostOps0_191 : List (HloOp τ sig (Elt F))).length = 6 := rfl

set_option maxHeartbeats 4000000 in
/-- Operations 4411 … 4522 of the program, writing buffers 4439 … 4550. -/
theorem hostOps0_192_chain : Chain 4439 (hostOps0_192 : List (HloOp τ sig (Elt F))) :=
  Chain.cons (stepAt_nullary 4439 _ _ rfl) <|
  Chain.cons (stepAt_unary 4440 _ _ _ rfl (by decide)) <|
  Chain.cons (stepAt_binary 4441 _ _ _ _ rfl (by decide) (by decide)) <|
  Chain.cons (stepAt_nullary 4442 _ _ rfl) <|
  Chain.cons (stepAt_unary 4443 _ _ _ rfl (by decide)) <|
  Chain.cons (stepAt_binary 4444 _ _ _ _ rfl (by decide) (by decide)) <|
  Chain.cons (stepAt_ternary 4445 _ _ _ _ _ rfl (by decide) (by decide) (by decide)) <|
  Chain.cons (stepAt_nullary 4446 _ _ rfl) <|
  Chain.cons (stepAt_unary 4447 _ _ _ rfl (by decide)) <|
  Chain.cons (stepAt_binary 4448 _ _ _ _ rfl (by decide) (by decide)) <|
  Chain.cons (stepAt_nullary 4449 _ _ rfl) <|
  Chain.cons (stepAt_unary 4450 _ _ _ rfl (by decide)) <|
  Chain.cons (stepAt_binary 4451 _ _ _ _ rfl (by decide) (by decide)) <|
  Chain.cons (stepAt_ternary 4452 _ _ _ _ _ rfl (by decide) (by decide) (by decide)) <|
  Chain.cons (stepAt_unary 4453 _ _ _ rfl (by decide)) <|
  Chain.cons (stepAt_unary 4454 _ _ _ rfl (by decide)) <|
  Chain.cons (stepAt_binary 4455 _ _ _ _ rfl (by decide) (by decide)) <|
  Chain.cons (stepAt_binary 4456 _ _ _ _ rfl (by decide) (by decide)) <|
  Chain.cons (stepAt_nullary 4457 _ _ rfl) <|
  Chain.cons (stepAt_unary 4458 _ _ _ rfl (by decide)) <|
  Chain.cons (stepAt_binary 4459 _ _ _ _ rfl (by decide) (by decide)) <|
  Chain.cons (stepAt_nullary 4460 _ _ rfl) <|
  Chain.cons (stepAt_unary 4461 _ _ _ rfl (by decide)) <|
  Chain.cons (stepAt_binary 4462 _ _ _ _ rfl (by decide) (by decide)) <|
  Chain.cons (stepAt_ternary 4463 _ _ _ _ _ rfl (by decide) (by decide) (by decide)) <|
  Chain.cons (stepAt_nullary 4464 _ _ rfl) <|
  Chain.cons (stepAt_unary 4465 _ _ _ rfl (by decide)) <|
  Chain.cons (stepAt_binary 4466 _ _ _ _ rfl (by decide) (by decide)) <|
  Chain.cons (stepAt_nullary 4467 _ _ rfl) <|
  Chain.cons (stepAt_unary 4468 _ _ _ rfl (by decide)) <|
  Chain.cons (stepAt_binary 4469 _ _ _ _ rfl (by decide) (by decide)) <|
  Chain.cons (stepAt_ternary 4470 _ _ _ _ _ rfl (by decide) (by decide) (by decide)) <|
  Chain.cons (stepAt_unary 4471 _ _ _ rfl (by decide)) <|
  Chain.cons (stepAt_unary 4472 _ _ _ rfl (by decide)) <|
  Chain.cons (stepAt_binary 4473 _ _ _ _ rfl (by decide) (by decide)) <|
  Chain.cons (stepAt_binary 4474 _ _ _ _ rfl (by decide) (by decide)) <|
  Chain.cons (stepAt_nullary 4475 _ _ rfl) <|
  Chain.cons (stepAt_unary 4476 _ _ _ rfl (by decide)) <|
  Chain.cons (stepAt_binary 4477 _ _ _ _ rfl (by decide) (by decide)) <|
  Chain.cons (stepAt_nullary 4478 _ _ rfl) <|
  Chain.cons (stepAt_unary 4479 _ _ _ rfl (by decide)) <|
  Chain.cons (stepAt_binary 4480 _ _ _ _ rfl (by decide) (by decide)) <|
  Chain.cons (stepAt_ternary 4481 _ _ _ _ _ rfl (by decide) (by decide) (by decide)) <|
  Chain.cons (stepAt_nullary 4482 _ _ rfl) <|
  Chain.cons (stepAt_unary 4483 _ _ _ rfl (by decide)) <|
  Chain.cons (stepAt_binary 4484 _ _ _ _ rfl (by decide) (by decide)) <|
  Chain.cons (stepAt_nullary 4485 _ _ rfl) <|
  Chain.cons (stepAt_unary 4486 _ _ _ rfl (by decide)) <|
  Chain.cons (stepAt_binary 4487 _ _ _ _ rfl (by decide) (by decide)) <|
  Chain.cons (stepAt_ternary 4488 _ _ _ _ _ rfl (by decide) (by decide) (by decide)) <|
  Chain.cons (stepAt_unary 4489 _ _ _ rfl (by decide)) <|
  Chain.cons (stepAt_unary 4490 _ _ _ rfl (by decide)) <|
  Chain.cons (stepAt_binary 4491 _ _ _ _ rfl (by decide) (by decide)) <|
  Chain.cons (stepAt_binary 4492 _ _ _ _ rfl (by decide) (by decide)) <|
  Chain.cons (stepAt_nullary 4493 _ _ rfl) <|
  Chain.cons (stepAt_unary 4494 _ _ _ rfl (by decide)) <|
  Chain.cons (stepAt_binary 4495 _ _ _ _ rfl (by decide) (by decide)) <|
  Chain.cons (stepAt_nullary 4496 _ _ rfl) <|
  Chain.cons (stepAt_unary 4497 _ _ _ rfl (by decide)) <|
  Chain.cons (stepAt_binary 4498 _ _ _ _ rfl (by decide) (by decide)) <|
  Chain.cons (stepAt_ternary 4499 _ _ _ _ _ rfl (by decide) (by decide) (by decide)) <|
  Chain.cons (stepAt_nullary 4500 _ _ rfl) <|
  Chain.cons (stepAt_unary 4501 _ _ _ rfl (by decide)) <|
  Chain.cons (stepAt_binary 4502 _ _ _ _ rfl (by decide) (by decide)) <|
  Chain.cons (stepAt_nullary 4503 _ _ rfl) <|
  Chain.cons (stepAt_unary 4504 _ _ _ rfl (by decide)) <|
  Chain.cons (stepAt_binary 4505 _ _ _ _ rfl (by decide) (by decide)) <|
  Chain.cons (stepAt_ternary 4506 _ _ _ _ _ rfl (by decide) (by decide) (by decide)) <|
  Chain.cons (stepAt_unary 4507 _ _ _ rfl (by decide)) <|
  Chain.cons (stepAt_unary 4508 _ _ _ rfl (by decide)) <|
  Chain.cons (stepAt_binary 4509 _ _ _ _ rfl (by decide) (by decide)) <|
  Chain.cons (stepAt_binary 4510 _ _ _ _ rfl (by decide) (by decide)) <|
  Chain.cons (stepAt_nullary 4511 _ _ rfl) <|
  Chain.cons (stepAt_unary 4512 _ _ _ rfl (by decide)) <|
  Chain.cons (stepAt_binary 4513 _ _ _ _ rfl (by decide) (by decide)) <|
  Chain.cons (stepAt_unary 4514 _ _ _ rfl (by decide)) <|
  Chain.cons (stepAt_unary 4515 _ _ _ rfl (by decide)) <|
  Chain.cons (stepAt_binary 4516 _ _ _ _ rfl (by decide) (by decide)) <|
  Chain.cons (stepAt_nullary 4517 _ _ rfl) <|
  Chain.cons (stepAt_unary 4518 _ _ _ rfl (by decide)) <|
  Chain.cons (stepAt_binary 4519 _ _ _ _ rfl (by decide) (by decide)) <|
  Chain.cons (stepAt_unary 4520 _ _ _ rfl (by decide)) <|
  Chain.cons (stepAt_unary 4521 _ _ _ rfl (by decide)) <|
  Chain.cons (stepAt_binary 4522 _ _ _ _ rfl (by decide) (by decide)) <|
  Chain.cons (stepAt_unary 4523 _ _ _ rfl (by decide)) <|
  Chain.cons (stepAt_unary 4524 _ _ _ rfl (by decide)) <|
  Chain.cons (stepAt_binary 4525 _ _ _ _ rfl (by decide) (by decide)) <|
  Chain.cons (stepAt_nullary 4526 _ _ rfl) <|
  Chain.cons (stepAt_unary 4527 _ _ _ rfl (by decide)) <|
  Chain.cons (stepAt_binary 4528 _ _ _ _ rfl (by decide) (by decide)) <|
  Chain.cons (stepAt_unary 4529 _ _ _ rfl (by decide)) <|
  Chain.cons (stepAt_unary 4530 _ _ _ rfl (by decide)) <|
  Chain.cons (stepAt_binary 4531 _ _ _ _ rfl (by decide) (by decide)) <|
  Chain.cons (stepAt_binary 4532 _ _ _ _ rfl (by decide) (by decide)) <|
  Chain.cons (stepAt_nullary 4533 _ _ rfl) <|
  Chain.cons (stepAt_unary 4534 _ _ _ rfl (by decide)) <|
  Chain.cons (stepAt_binary 4535 _ _ _ _ rfl (by decide) (by decide)) <|
  Chain.cons (stepAt_unary 4536 _ _ _ rfl (by decide)) <|
  Chain.cons (stepAt_unary 4537 _ _ _ rfl (by decide)) <|
  Chain.cons (stepAt_binary 4538 _ _ _ _ rfl (by decide) (by decide)) <|
  Chain.cons (stepAt_unary 4539 _ _ _ rfl (by decide)) <|
  Chain.cons (stepAt_unary 4540 _ _ _ rfl (by decide)) <|
  Chain.cons (stepAt_binary 4541 _ _ _ _ rfl (by decide) (by decide)) <|
  Chain.cons (stepAt_binary 4542 _ _ _ _ rfl (by decide) (by decide)) <|
  Chain.cons (stepAt_unary 4543 _ _ _ rfl (by decide)) <|
  Chain.cons (stepAt_unary 4544 _ _ _ rfl (by decide)) <|
  Chain.cons (stepAt_binary 4545 _ _ _ _ rfl (by decide) (by decide)) <|
  Chain.cons (stepAt_unary 4546 _ _ _ rfl (by decide)) <|
  Chain.cons (stepAt_unary 4547 _ _ _ rfl (by decide)) <|
  Chain.cons (stepAt_binary 4548 _ _ _ _ rfl (by decide) (by decide)) <|
  Chain.cons (stepAt_binary 4549 _ _ _ _ rfl (by decide) (by decide)) <|
  Chain.cons (stepAt_unary 4550 _ _ _ rfl (by decide)) <|
  Chain.nil
theorem hostOps0_192_length : (hostOps0_192 : List (HloOp τ sig (Elt F))).length = 112 := rfl

end Cert.KernelIdeal.Stretch

end
-- ==== Proof.KIStretchAll.lean ====
/- All of the program's host operations, the listed pieces one after the other, are ONE single-assignment line starting at
   buffer 28 (the first buffer after the 28 arguments): each piece is such a line and starts where the one before ends. -/
import proofs.«133805_j10187662426200_2_alg».proof.Proof.KIStretch0
import proofs.«133805_j10187662426200_2_alg».proof.Proof.KIStretch1
import proofs.«133805_j10187662426200_2_alg».proof.Proof.KIStretch2
import proofs.«133805_j10187662426200_2_alg».proof.Proof.KIStretch3
import proofs.«133805_j10187662426200_2_alg».proof.Proof.KIStretch4

set_option maxRecDepth 65536

noncomputable section

namespace Cert.KernelIdeal.Stretch

open Cert.KernelIdeal Cert.KernelIdeal.Gen Idealize.ShloMosaic Idealize.ShloMosaic.TcCoe Idealize.SL.Sem Idealize.ShloMosaic.StableHlo Cert.HostFold

variable {F : FTy → Type} [FloatOps F]

/-- The pieces, in order. -/
abbrev pieces : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147, hostOps0_148, hostOps0_149, hostOps0_150, hostOps0_151, hostOps0_152, hostOps0_153, hostOps0_154, hostOps0_155, hostOps0_156, hostOps0_157, hostOps0_158, hostOps0_159, hostOps0_160, hostOps0_161, hostOps0_162, hostOps0_163, hostOps0_164, hostOps0_165, hostOps0_166, hostOps0_167, hostOps0_168, hostOps0_169, hostOps0_170, hostOps0_171, hostOps0_172, hostOps0_173, hostOps0_174, hostOps0_175, hostOps0_176, hostOps0_177, hostOps0_178, hostOps0_179, hostOps0_180, hostOps0_181, hostOps0_182, hostOps0_183, hostOps0_184, hostOps0_185, hostOps0_186, hostOps0_187, hostOps0_188, hostOps0_189, hostOps0_190, hostOps0_191, hostOps0_192]

set_option maxHeartbeats 4000000 in
theorem all_chain : Chain 28 (List.flatten pieces : List (HloOp τ sig (Elt F))) := by
  show Chain 28 (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24 ++ (hostOps0_25 ++ (hostOps0_26 ++ (hostOps0_27 ++ (hostOps0_28 ++ (hostOps0_29 ++ (hostOps0_30 ++ (hostOps0_31 ++ (hostOps0_32 ++ (hostOps0_33 ++ (hostOps0_34 ++ (hostOps0_35 ++ (hostOps0_36 ++ (hostOps0_37 ++ (hostOps0_38 ++ (hostOps0_39 ++ (hostOps0_40 ++ (hostOps0_41 ++ (hostOps0_42 ++ (hostOps0_43 ++ (hostOps0_44 ++ (hostOps0_45 ++ (hostOps0_46 ++ (hostOps0_47 ++ (hostOps0_48 ++ (hostOps0_49 ++ (hostOps0_50 ++ (hostOps0_51 ++ (hostOps0_52 ++ (hostOps0_53 ++ (hostOps0_54 ++ (hostOps0_55 ++ (hostOps0_56 ++ (hostOps0_57 ++ (hostOps0_58 ++ (hostOps0_59 ++ (hostOps0_60 ++ (hostOps0_61 ++ (hostOps0_62 ++ (hostOps0_63 ++ (hostOps0_64 ++ (hostOps0_65 ++ (hostOps0_66 ++ (hostOps0_67 ++ (hostOps0_68 ++ (hostOps0_69 ++ (hostOps0_70 ++ (hostOps0_71 ++ (hostOps0_72 ++ (hostOps0_73 ++ (hostOps0_74 ++ (hostOps0_75 ++ (hostOps0_76 ++ (hostOps0_77 ++ (hostOps0_78 ++ (hostOps0_79 ++ (hostOps0_80 ++ (hostOps0_81 ++ (hostOps0_82 ++ (hostOps0_83 ++ (hostOps0_84 ++ (hostOps0_85 ++ (hostOps0_86 ++ (hostOps0_87 ++ (hostOps0_88 ++ (hostOps0_89 ++ (hostOps0_90 ++ (hostOps0_91 ++ (hostOps0_92 ++ (hostOps0_93 ++ (hostOps0_94 ++ (hostOps0_95 ++ (hostOps0_96 ++ (hostOps0_97 ++ (hostOps0_98 ++ (hostOps0_99 ++ (hostOps0_100 ++ (hostOps0_101 ++ (hostOps0_102 ++ (hostOps0_103 ++ (hostOps0_104 ++ (hostOps0_105 ++ (hostOps0_106 ++ (hostOps0_107 ++ (hostOps0_108 ++ (hostOps0_109 ++ (hostOps0_110 ++ (hostOps0_111 ++ (hostOps0_112 ++ (hostOps0_113 ++ (hostOps0_114 ++ (hostOps0_115 ++ (hostOps0_116 ++ (hostOps0_117 ++ (hostOps0_118 ++ (hostOps0_119 ++ (hostOps0_120 ++ (hostOps0_121 ++ (hostOps0_122 ++ (hostOps0_123 ++ (hostOps0_124 ++ (hostOps0_125 ++ (hostOps0_126 ++ (hostOps0_127 ++ (hostOps0_128 ++ (hostOps0_129 ++ (hostOps0_130 ++ (hostOps0_131 ++ (hostOps0_132 ++ (hostOps0_133 ++ (hostOps0_134 ++ (hostOps0_135 ++ (hostOps0_136 ++ (hostOps0_137 ++ (hostOps0_138 ++ (hostOps0_139 ++ (hostOps0_140 ++ (hostOps0_141 ++ (hostOps0_142 ++ (hostOps0_143 ++ (hostOps0_144 ++ (hostOps0_145 ++ (hostOps0_146 ++ (hostOps0_147 ++ (hostOps0_148 ++ (hostOps0_149 ++ (hostOps0_150 ++ (hostOps0_151 ++ (hostOps0_152 ++ (hostOps0_153 ++ (hostOps0_154 ++ (hostOps0_155 ++ (hostOps0_156 ++ (hostOps0_157 ++ (hostOps0_158 ++ (hostOps0_159 ++ (hostOps0_160 ++ (hostOps0_161 ++ (hostOps0_162 ++ (hostOps0_163 ++ (hostOps0_164 ++ (hostOps0_165 ++ (hostOps0_166 ++ (hostOps0_167 ++ (hostOps0_168 ++ (hostOps0_169 ++ (hostOps0_170 ++ (hostOps0_171 ++ (hostOps0_172 ++ (hostOps0_173 ++ (hostOps0_174 ++ (hostOps0_175 ++ (hostOps0_176 ++ (hostOps0_177 ++ (hostOps0_178 ++ (hostOps0_179 ++ (hostOps0_180 ++ (hostOps0_181 ++ (hostOps0_182 ++ (hostOps0_183 ++ (hostOps0_184 ++ (hostOps0_185 ++ (hostOps0_186 ++ (hostOps0_187 ++ (hostOps0_188 ++ (hostOps0_189 ++ (hostOps0_190 ++ (hostOps0_191 ++ (hostOps0_192 ++ [])))))))))))))))))))))))))))))))))))))))))))))))))))))))))))))))))))))))))))))))))))))))))))))))))))))))))))))))))))))))))))))))))))))))))))))))))))))))))))))))))))))))))))))))))))))))))))))))))
  exact
    Chain.append' hostOps0_chain hostOps0_length rfl <|
    Chain.append' hostOps0_1_chain hostOps0_1_length rfl <|
    Chain.append' hostOps0_2_chain hostOps0_2_length rfl <|
    Chain.append' hostOps0_3_chain hostOps0_3_length rfl <|
    Chain.append' hostOps0_4_chain hostOps0_4_length rfl <|
    Chain.append' hostOps0_5_chain hostOps0_5_length rfl <|
    Chain.append' hostOps0_6_chain hostOps0_6_length rfl <|
    Chain.append' hostOps0_7_chain hostOps0_7_length rfl <|
    Chain.append' hostOps0_8_chain hostOps0_8_length rfl <|
    Chain.append' hostOps0_9_chain hostOps0_9_length rfl <|
    Chain.append' hostOps0_10_chain hostOps0_10_length rfl <|
    Chain.append' hostOps0_11_chain hostOps0_11_length rfl <|
    Chain.append' hostOps0_12_chain hostOps0_12_length rfl <|
    Chain.append' hostOps0_13_chain hostOps0_13_length rfl <|
    Chain.append' hostOps0_14_chain hostOps0_14_length rfl <|
    Chain.append' hostOps0_15_chain hostOps0_15_length rfl <|
    Chain.append' hostOps0_16_chain hostOps0_16_length rfl <|
    Chain.append' hostOps0_17_chain hostOps0_17_length rfl <|
    Chain.append' hostOps0_18_chain hostOps0_18_length rfl <|
    Chain.append' hostOps0_19_chain hostOps0_19_length rfl <|
    Chain.append' hostOps0_20_chain hostOps0_20_length rfl <|
    Chain.append' hostOps0_21_chain hostOps0_21_length rfl <|
    Chain.append' hostOps0_22_chain hostOps0_22_length rfl <|
    Chain.append' hostOps0_23_chain hostOps0_23_length rfl <|
    Chain.append' hostOps0_24_chain hostOps0_24_length rfl <|
    Chain.append' hostOps0_25_chain hostOps0_25_length rfl <|
    Chain.append' hostOps0_26_chain hostOps0_26_length rfl <|
    Chain.append' hostOps0_27_chain hostOps0_27_length rfl <|
    Chain.append' hostOps0_28_chain hostOps0_28_length rfl <|
    Chain.append' hostOps0_29_chain hostOps0_29_length rfl <|
    Chain.append' hostOps0_30_chain hostOps0_30_length rfl <|
    Chain.append' hostOps0_31_chain hostOps0_31_length rfl <|
    Chain.append' hostOps0_32_chain hostOps0_32_length rfl <|
    Chain.append' hostOps0_33_chain hostOps0_33_length rfl <|
    Chain.append' hostOps0_34_chain hostOps0_34_length rfl <|
    Chain.append' hostOps0_35_chain hostOps0_35_length rfl <|
    Chain.append' hostOps0_36_chain hostOps0_36_length rfl <|
    Chain.append' hostOps0_37_chain hostOps0_37_length rfl <|
    Chain.append' hostOps0_38_chain hostOps0_38_length rfl <|
    Chain.append' hostOps0_39_chain hostOps0_39_length rfl <|
    Chain.append' hostOps0_40_chain hostOps0_40_length rfl <|
    Chain.append' hostOps0_41_chain hostOps0_41_length rfl <|
    Chain.append' hostOps0_42_chain hostOps0_42_length rfl <|
    Chain.append' hostOps0_43_chain hostOps0_43_length rfl <|
    Chain.append' hostOps0_44_chain hostOps0_44_length rfl <|
    Chain.append' hostOps0_45_chain hostOps0_45_length rfl <|
    Chain.append' hostOps0_46_chain hostOps0_46_length rfl <|
    Chain.append' hostOps0_47_chain hostOps0_47_length rfl <|
    Chain.append' hostOps0_48_chain hostOps0_48_length rfl <|
    Chain.append' hostOps0_49_chain hostOps0_49_length rfl <|
    Chain.append' hostOps0_50_chain hostOps0_50_length rfl <|
    Chain.append' hostOps0_51_chain hostOps0_51_length rfl <|
    Chain.append' hostOps0_52_chain hostOps0_52_length rfl <|
    Chain.append' hostOps0_53_chain hostOps0_53_length rfl <|
    Chain.append' hostOps0_54_chain hostOps0_54_length rfl <|
    Chain.append' hostOps0_55_chain hostOps0_55_length rfl <|
    Chain.append' hostOps0_56_chain hostOps0_56_length rfl <|
    Chain.append' hostOps0_57_chain hostOps0_57_length rfl <|
    Chain.append' hostOps0_58_chain hostOps0_58_length rfl <|
    Chain.append' hostOps0_59_chain hostOps0_59_length rfl <|
    Chain.append' hostOps0_60_chain hostOps0_60_length rfl <|
    Chain.append' hostOps0_61_chain hostOps0_61_length rfl <|
    Chain.append' hostOps0_62_chain hostOps0_62_length rfl <|
    Chain.append' hostOps0_63_chain hostOps0_63_length rfl <|
    Chain.append' hostOps0_64_chain hostOps0_64_length rfl <|
    Chain.append' hostOps0_65_chain hostOps0_65_length rfl <|
    Chain.append' hostOps0_66_chain hostOps0_66_length rfl <|
    Chain.append' hostOps0_67_chain hostOps0_67_length rfl <|
    Chain.append' hostOps0_68_chain hostOps0_68_length rfl <|
    Chain.append' hostOps0_69_chain hostOps0_69_length rfl <|
    Chain.append' hostOps0_70_chain hostOps0_70_length rfl <|
    Chain.append' hostOps0_71_chain hostOps0_71_length rfl <|
    Chain.append' hostOps0_72_chain hostOps0_72_length rfl <|
    Chain.append' hostOps0_73_chain hostOps0_73_length rfl <|
    Chain.append' hostOps0_74_chain hostOps0_74_length rfl <|
    Chain.append' hostOps0_75_chain hostOps0_75_length rfl <|
    Chain.append' hostOps0_76_chain hostOps0_76_length rfl <|
    Chain.append' hostOps0_77_chain hostOps0_77_length rfl <|
    Chain.append' hostOps0_78_chain hostOps0_78_length rfl <|
    Chain.append' hostOps0_79_chain hostOps0_79_length rfl <|
    Chain.append' hostOps0_80_chain hostOps0_80_length rfl <|
    Chain.append' hostOps0_81_chain hostOps0_81_length rfl <|
    Chain.append' hostOps0_82_chain hostOps0_82_length rfl <|
    Chain.append' hostOps0_83_chain hostOps0_83_length rfl <|
    Chain.append' hostOps0_84_chain hostOps0_84_length rfl <|
    Chain.append' hostOps0_85_chain hostOps0_85_length rfl <|
    Chain.append' hostOps0_86_chain hostOps0_86_length rfl <|
    Chain.append' hostOps0_87_chain hostOps0_87_length rfl <|
    Chain.append' hostOps0_88_chain hostOps0_88_length rfl <|
    Chain.append' hostOps0_89_chain hostOps0_89_length rfl <|
    Chain.append' hostOps0_90_chain hostOps0_90_length rfl <|
    Chain.append' hostOps0_91_chain hostOps0_91_length rfl <|
    Chain.append' hostOps0_92_chain hostOps0_92_length rfl <|
    Chain.append' hostOps0_93_chain hostOps0_93_length rfl <|
    Chain.append' hostOps0_94_chain hostOps0_94_length rfl <|
    Chain.append' hostOps0_95_chain hostOps0_95_length rfl <|
    Chain.append' hostOps0_96_chain hostOps0_96_length rfl <|
    Chain.append' hostOps0_97_chain hostOps0_97_length rfl <|
    Chain.append' hostOps0_98_chain hostOps0_98_length rfl <|
    Chain.append' hostOps0_99_chain hostOps0_99_length rfl <|
    Chain.append' hostOps0_100_chain hostOps0_100_length rfl <|
    Chain.append' hostOps0_101_chain hostOps0_101_length rfl <|
    Chain.append' hostOps0_102_chain hostOps0_102_length rfl <|
    Chain.append' hostOps0_103_chain hostOps0_103_length rfl <|
    Chain.append' hostOps0_104_chain hostOps0_104_length rfl <|
    Chain.append' hostOps0_105_chain hostOps0_105_length rfl <|
    Chain.append' hostOps0_106_chain hostOps0_106_length rfl <|
    Chain.append' hostOps0_107_chain hostOps0_107_length rfl <|
    Chain.append' hostOps0_108_chain hostOps0_108_length rfl <|
    Chain.append' hostOps0_109_chain hostOps0_109_length rfl <|
    Chain.append' hostOps0_110_chain hostOps0_110_length rfl <|
    Chain.append' hostOps0_111_chain hostOps0_111_length rfl <|
    Chain.append' hostOps0_112_chain hostOps0_112_length rfl <|
    Chain.append' hostOps0_113_chain hostOps0_113_length rfl <|
    Chain.append' hostOps0_114_chain hostOps0_114_length rfl <|
    Chain.append' hostOps0_115_chain hostOps0_115_length rfl <|
    Chain.append' hostOps0_116_chain hostOps0_116_length rfl <|
    Chain.append' hostOps0_117_chain hostOps0_117_length rfl <|
    Chain.append' hostOps0_118_chain hostOps0_118_length rfl <|
    Chain.append' hostOps0_119_chain hostOps0_119_length rfl <|
    Chain.append' hostOps0_120_chain hostOps0_120_length rfl <|
    Chain.append' hostOps0_121_chain hostOps0_121_length rfl <|
    Chain.append' hostOps0_122_chain hostOps0_122_length rfl <|
    Chain.append' hostOps0_123_chain hostOps0_123_length rfl <|
    Chain.append' hostOps0_124_chain hostOps0_124_length rfl <|
    Chain.append' hostOps0_125_chain hostOps0_125_length rfl <|
    Chain.append' hostOps0_126_chain hostOps0_126_length rfl <|
    Chain.append' hostOps0_127_chain hostOps0_127_length rfl <|
    Chain.append' hostOps0_128_chain hostOps0_128_length rfl <|
    Chain.append' hostOps0_129_chain hostOps0_129_length rfl <|
    Chain.append' hostOps0_130_chain hostOps0_130_length rfl <|
    Chain.append' hostOps0_131_chain hostOps0_131_length rfl <|
    Chain.append' hostOps0_132_chain hostOps0_132_length rfl <|
    Chain.append' hostOps0_133_chain hostOps0_133_length rfl <|
    Chain.append' hostOps0_134_chain hostOps0_134_length rfl <|
    Chain.append' hostOps0_135_chain hostOps0_135_length rfl <|
    Chain.append' hostOps0_136_chain hostOps0_136_length rfl <|
    Chain.append' hostOps0_137_chain hostOps0_137_length rfl <|
    Chain.append' hostOps0_138_chain hostOps0_138_length rfl <|
    Chain.append' hostOps0_139_chain hostOps0_139_length rfl <|
    Chain.append' hostOps0_140_chain hostOps0_140_length rfl <|
    Chain.append' hostOps0_141_chain hostOps0_141_length rfl <|
    Chain.append' hostOps0_142_chain hostOps0_142_length rfl <|
    Chain.append' hostOps0_143_chain hostOps0_143_length rfl <|
    Chain.append' hostOps0_144_chain hostOps0_144_length rfl <|
    Chain.append' hostOps0_145_chain hostOps0_145_length rfl <|
    Chain.append' hostOps0_146_chain hostOps0_146_length rfl <|
    Chain.append' hostOps0_147_chain hostOps0_147_length rfl <|
    Chain.append' hostOps0_148_chain hostOps0_148_length rfl <|
    Chain.append' hostOps0_149_chain hostOps0_149_length rfl <|
    Chain.append' hostOps0_150_chain hostOps0_150_length rfl <|
    Chain.append' hostOps0_151_chain hostOps0_151_length rfl <|
    Chain.append' hostOps0_152_chain hostOps0_152_length rfl <|
    Chain.append' hostOps0_153_chain hostOps0_153_length rfl <|
    Chain.append' hostOps0_154_chain hostOps0_154_length rfl <|
    Chain.append' hostOps0_155_chain hostOps0_155_length rfl <|
    Chain.append' hostOps0_156_chain hostOps0_156_length rfl <|
    Chain.append' hostOps0_157_chain hostOps0_157_length rfl <|
    Chain.append' hostOps0_158_chain hostOps0_158_length rfl <|
    Chain.append' hostOps0_159_chain hostOps0_159_length rfl <|
    Chain.append' hostOps0_160_chain hostOps0_160_length rfl <|
    Chain.append' hostOps0_161_chain hostOps0_161_length rfl <|
    Chain.append' hostOps0_162_chain hostOps0_162_length rfl <|
    Chain.append' hostOps0_163_chain hostOps0_163_length rfl <|
    Chain.append' hostOps0_164_chain hostOps0_164_length rfl <|
    Chain.append' hostOps0_165_chain hostOps0_165_length rfl <|
    Chain.append' hostOps0_166_chain hostOps0_166_length rfl <|
    Chain.append' hostOps0_167_chain hostOps0_167_length rfl <|
    Chain.append' hostOps0_168_chain hostOps0_168_length rfl <|
    Chain.append' hostOps0_169_chain hostOps0_169_length rfl <|
    Chain.append' hostOps0_170_chain hostOps0_170_length rfl <|
    Chain.append' hostOps0_171_chain hostOps0_171_length rfl <|
    Chain.append' hostOps0_172_chain hostOps0_172_length rfl <|
    Chain.append' hostOps0_173_chain hostOps0_173_length rfl <|
    Chain.append' hostOps0_174_chain hostOps0_174_length rfl <|
    Chain.append' hostOps0_175_chain hostOps0_175_length rfl <|
    Chain.append' hostOps0_176_chain hostOps0_176_length rfl <|
    Chain.append' hostOps0_177_chain hostOps0_177_length rfl <|
    Chain.append' hostOps0_178_chain hostOps0_178_length rfl <|
    Chain.append' hostOps0_179_chain hostOps0_179_length rfl <|
    Chain.append' hostOps0_180_chain hostOps0_180_length rfl <|
    Chain.append' hostOps0_181_chain hostOps0_181_length rfl <|
    Chain.append' hostOps0_182_chain hostOps0_182_length rfl <|
    Chain.append' hostOps0_183_chain hostOps0_183_length rfl <|
    Chain.append' hostOps0_184_chain hostOps0_184_length rfl <|
    Chain.append' hostOps0_185_chain hostOps0_185_length rfl <|
    Chain.append' hostOps0_186_chain hostOps0_186_length rfl <|
    Chain.append' hostOps0_187_chain hostOps0_187_length rfl <|
    Chain.append' hostOps0_188_chain hostOps0_188_length rfl <|
    Chain.append' hostOps0_189_chain hostOps0_189_length rfl <|
    Chain.append' hostOps0_190_chain hostOps0_190_length rfl <|
    Chain.append' hostOps0_191_chain hostOps0_191_length rfl <|
    Chain.append' hostOps0_192_chain hostOps0_192_length rfl <|
    Chain.nil

end Cert.KernelIdeal.Stretch

end
-- ==== Proof.KernelPayload.lean ====
/-
  The kernel body's stored value at one entry of its [1024,16] block, as a formula of the loaded blocks.

  The body multiplies the 24 loaded [1024,32] blocks six at a time into four feature blocks, takes each against its
  32-row slice of the first weight matrix (four [1024,32] by [32,64] products into zero accumulators; the narrowing
  casts around them are the identity on extended reals), adds the four left to right, clips below at 0, takes the
  result against the second weight matrix ([1024,64] by [64,16]), and stores column 15 under `exp` in column 0 and
  columns 0..14 in columns 1..15. Read at row `p`:
  * a block product into the zero accumulator is the sum over the contracted coordinate (`matmul_plain_zero_apply`);
  * the hidden unit `q` is `bhidden … p q`, the second product's column `j` is `braw … p j`;
  * column 0 of the stored block is `exp (braw … p 15)` (`pay_col0`), column `j + 1` is `braw … p j` (`pay_colSucc`).
-/
import proofs.«133805_j10187662426200_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Cert.KernelIdeal.KValue

open Cert.KernelIdeal Cert.KernelIdeal.Gen Idealize.ShloMosaic Idealize.ShloMosaic.ValueIdx

/-- An m×k by k×n block product into the zero accumulator, read at row a, column b: the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The body's [1024,32] by [32,64] products: its dimension numbers are the plain ones. -/
theorem mm1_apply (A : FVec Ideal S1024x32 .bf16) (B : FVec Ideal S32x64 .bf16) (p : Fin 1024) (q : Fin 64) :
    matmul dot_S1024x32_S32x64_S1024x64_1_0_0_1_n_n none A B (constant S1024x64 .f32 0x00000000#32) (ix2 p q)
      = ∑ k : Fin 32, A (ix2 p k) * B (ix2 k q) :=
  matmul_plain_zero_apply none A B p q

/-- The body's [1024,64] by [64,16] product likewise. -/
theorem mm2_apply (A : FVec Ideal S1024x64 .bf16) (B : FVec Ideal S64x16 .bf16) (p : Fin 1024) (j : Fin 16) :
    matmul dot_S1024x64_S64x16_S1024x16_1_0_0_1_n_n none A B (constant S1024x16 .f32 0x00000000#32) (ix2 p j)
      = ∑ q : Fin 64, A (ix2 p q) * B (ix2 q j) :=
  matmul_plain_zero_apply none A B p j

/-- Six blocks multiplied left to right, entry by entry: a scale's feature block. -/
def bprod6 (x0 x1 x2 x3 x4 x5 : Vec Ideal S1024x32 .f32) : FVec Ideal S1024x32 .f32 :=
  fun i => ((((x0 i * x1 i) * x2 i) * x3 i) * x4 i) * x5 i

/-- A feature block against a 32-row slice of the first weight matrix: row `p`, hidden unit `q`. -/
def bpart (g : FVec Ideal S1024x32 .f32) (w : Vec Ideal S32x64 .f32) (p : Fin 1024) (q : Fin 64) : EReal :=
  ∑ k : Fin 32, g (ix2 p k) * w (ix2 k q)

/-- The hidden layer of a block of rows: the four partial sums added left to right, clipped below at 0. -/
def bhidden (g0 g1 g2 g3 : FVec Ideal S1024x32 .f32) (wa wb wc wd : Vec Ideal S32x64 .f32) (p : Fin 1024) (q : Fin 64) : EReal :=
  max (((bpart g0 wa p q + bpart g1 wb p q) + bpart g2 wc p q) + bpart g3 wd p q) 0

/-- The second product of a block of rows: row `p`, column `j`. -/
def braw (g0 g1 g2 g3 : FVec Ideal S1024x32 .f32) (wa wb wc wd : Vec Ideal S32x64 .f32) (w2 : Vec Ideal S64x16 .f32)
    (p : Fin 1024) (j : Fin 16) : EReal :=
  ∑ q : Fin 64, bhidden g0 g1 g2 g3 wa wb wc wd p q * w2 (ix2 q j)

/-- The second product of the body, read at row `p`, column `j`: every operation before it is entry by entry
    except the five block products, each a sum over its contracted coordinate. -/
theorem second_product_apply
    (x0 x1 x2 x3 x4 x5 x6 x7 x8 x9 x10 x11 x12 x13 x14 x15 x16 x17 x18 x19 x20 x21 x22 x23 : Vec Ideal S1024x32 .f32)
    (wa wb wc wd : Vec Ideal S32x64 .f32) (w2 : Vec Ideal S64x16 .f32) (p : Fin 1024) (j : Fin 16) :
    matmul dot_S1024x64_S64x16_S1024x16_1_0_0_1_n_n none
        (truncf .bf16
          (maximumf
            (addf
              (addf
                (addf
                  (matmul dot_S1024x32_S32x64_S1024x64_1_0_0_1_n_n none
                    (truncf .bf16 (mulf (mulf (mulf (mulf (mulf x0 x1) x2) x3) x4) x5) bitsLt_bf16_f32)
                    (truncf .bf16 wa bitsLt_bf16_f32) (constant S1024x64 .f32 0x00000000#32))
                  (matmul dot_S1024x32_S32x64_S1024x64_1_0_0_1_n_n none
                    (truncf .bf16 (mulf (mulf (mulf (mulf (mulf x6 x7) x8) x9) x10) x11) bitsLt_bf16_f32)
                    (truncf .bf16 wb bitsLt_bf16_f32) (constant S1024x64 .f32 0x00000000#32)))
                (matmul dot_S1024x32_S32x64_S1024x64_1_0_0_1_n_n none
                  (truncf .bf16 (mulf (mulf (mulf (mulf (mulf x12 x13) x14) x15) x16) x17) bitsLt_bf16_f32)
                  (truncf .bf16 wc bitsLt_bf16_f32) (constant S1024x64 .f32 0x00000000#32)))
              (matmul dot_S1024x32_S32x64_S1024x64_1_0_0_1_n_n none
                (truncf .bf16 (mulf (mulf (mulf (mulf (mulf x18 x19) x20) x21) x22) x23) bitsLt_bf16_f32)
                (truncf .bf16 wd bitsLt_bf16_f32) (constant S1024x64 .f32 0x00000000#32)))
            (broadcast S1024x64 (FloatOps.ofBits (F := Ideal) .f32 0x00000000#32)))
          bitsLt_bf16_f32)
        (truncf .bf16 w2 bitsLt_bf16_f32) (constant S1024x16 .f32 0x00000000#32) (ix2 p j)
      = braw (bprod6 x0 x1 x2 x3 x4 x5) (bprod6 x6 x7 x8 x9 x10 x11) (bprod6 x12 x13 x14 x15 x16 x17)
          (bprod6 x18 x19 x20 x21 x22 x23) wa wb wc wd w2 p j := by
  rw [mm2_apply]
  unfold braw
  refine Finset.sum_congr rfl fun q _ => ?_
  simp only [truncf_apply, maximumf_apply, addf_apply, mm1_apply, mulf_apply, broadcast_apply, Ideal.ofBits_def,
    Ideal.ofBits_zero_f32]
  rfl

/-- Column 0 of the stored block: `exp` of the second product's column 15. -/
theorem pay_col0
    (x0 x1 x2 x3 x4 x5 x6 x7 x8 x9 x10 x11 x12 x13 x14 x15 x16 x17 x18 x19 x20 x21 x22 x23 : Vec Ideal S1024x32 .f32)
    (wa wb wc wd : Vec Ideal S32x64 .f32) (w2 : Vec Ideal S64x16 .f32) (p : Fin 1024) :
    k0_pay1 (k0_pay5 (k0_pay2 x0 x1 x2 x3 x4 x5 wa) (k0_pay3 x6 x7 x8 x9) (k0_pay4 x10) x11 wb x12 x13 x14 x15 x16 x17 wc)
        (k0_pay6 x18 x19) x20 x21 x22 x23 wd w2 (ix2 p (0 : Fin 16))
      = Ideal.exp (braw (bprod6 x0 x1 x2 x3 x4 x5) (bprod6 x6 x7 x8 x9 x10 x11) (bprod6 x12 x13 x14 x15 x16 x17)
          (bprod6 x18 x19 x20 x21 x22 x23) wa wb wc wd w2 p ⟨15, by decide⟩) := by
  unfold k0_pay1 k0_pay5 k0_pay2 k0_pay3 k0_pay4 k0_pay6
  simp only [shapeCast_self]
  refine (concatenate_pair_apply_left (t := S1024x16) (s₁ := S1024x1) (s₂ := S1024x15) (1 : Fin 2) _ _ _
    (ix2 p (0 : Fin 16)) rfl (ix2 p (0 : Fin 1)) ?_).trans ?_
  · intro b
    match b with
    | ⟨0, _⟩ => rfl
    | ⟨1, _⟩ => rfl
  · refine congrArg Ideal.exp ?_
    refine (extractStridedSlice_apply _ _ _ (ix2 p (0 : Fin 1)) (ix2 p (⟨15, by decide⟩ : Fin 16)) ?_).trans ?_
    · intro a
      match a with
      | ⟨0, _⟩ => show p.val = 0 + p.val; omega
      | ⟨1, _⟩ => rfl
    · exact second_product_apply x0 x1 x2 x3 x4 x5 x6 x7 x8 x9 x10 x11 x12 x13 x14 x15 x16 x17 x18 x19 x20 x21 x22 x23
        wa wb wc wd w2 p ⟨15, by decide⟩

/-- Column `j + 1` of the stored block: the second product's column `j`. -/
theorem pay_colSucc
    (x0 x1 x2 x3 x4 x5 x6 x7 x8 x9 x10 x11 x12 x13 x14 x15 x16 x17 x18 x19 x20 x21 x22 x23 : Vec Ideal S1024x32 .f32)
    (wa wb wc wd : Vec Ideal S32x64 .f32) (w2 : Vec Ideal S64x16 .f32) (p : Fin 1024) (j : Fin 15) :
    k0_pay1 (k0_pay5 (k0_pay2 x0 x1 x2 x3 x4 x5 wa) (k0_pay3 x6 x7 x8 x9) (k0_pay4 x10) x11 wb x12 x13 x14 x15 x16 x17 wc)
        (k0_pay6 x18 x19) x20 x21 x22 x23 wd w2 (ix2 p (⟨j.val + 1, by have := j.isLt; omega⟩ : Fin 16))
      = braw (bprod6 x0 x1 x2 x3 x4 x5) (bprod6 x6 x7 x8 x9 x10 x11) (bprod6 x12 x13 x14 x15 x16 x17)
          (bprod6 x18 x19 x20 x21 x22 x23) wa wb wc wd w2 p ⟨j.val, by have := j.isLt; omega⟩ := by
  unfold k0_pay1 k0_pay5 k0_pay2 k0_pay3 k0_pay4 k0_pay6
  simp only [shapeCast_self]
  refine (concatenate_pair_apply_right (t := S1024x16) (s₁ := S1024x1) (s₂ := S1024x15) (1 : Fin 2) _ _ _
    (ix2 p (⟨j.val + 1, by have := j.isLt; omega⟩ : Fin 16)) rfl rfl (ix2 p j) ?_ ?_).trans ?_
  · intro b hb
    match b with
    | ⟨0, _⟩ => rfl
    | ⟨1, _⟩ => exact absurd rfl hb
  · rfl
  · refine (extractStridedSlice_apply _ _ _ (ix2 p j) (ix2 p (⟨j.val, by have := j.isLt; omega⟩ : Fin 16)) ?_).trans ?_
    · intro a
      match a with
      | ⟨0, _⟩ => show p.val = 0 + p.val; omega
      | ⟨1, _⟩ => show j.val = 0 + j.val; omega
    · exact second_product_apply x0 x1 x2 x3 x4 x5 x6 x7 x8 x9 x10 x11 x12 x13 x14 x15 x16 x17 x18 x19 x20 x21 x22 x23
        wa wb wc wd w2 p ⟨j.val, by have := j.isLt; omega⟩

end Cert.KernelIdeal.KValue

end
-- ==== Proof.Spec.lean ====
/-
  The one function both programs compute, stated index by index over the extended reals.

  Inputs: four feature arrays of shape [131072, 32] (one per scale; each is the product of that scale's six
  interpolated planes), the first weight matrix [128, 64] and the second [64, 16].
  * `prod6`: the six-fold product of a scale, taken left to right at one array index.
  * `hidden`: row `n`, unit `q` of the hidden layer: the four scales' partial sums `∑ₖ fₛ[n,k] · W1[32s+k, q]`
    (32 terms each), added left to right, then clipped below at 0.
  * `outRaw`: row `n`, column `j` of the second product: `∑_q hidden[n,q] · W2[q,j]`.
  * `mlp`: the result [131072, 16]: column 0 is `exp` of raw column 15, column `j ≥ 1` is raw column `j - 1`.
  Sums over a finite index set in the extended reals may be regrouped freely (addition is commutative and
  associative there), which is all that separates one 128-term sum from four 32-term sums.
-/
import Idealize.ShloMosaic.PureOps.Ideal
import Idealize.ShloMosaic.PureOps.Ideal.Laws
import Idealize.ShloMosaic.Lib.ValueIdx

noncomputable section

open scoped BigOperators

namespace Cert.KPlanes

open Idealize.ShloMosaic Idealize.ShloMosaic.ValueIdx

abbrev SN32 : Shape := ⟨2, ![131072, 32]⟩
abbrev SN16 : Shape := ⟨2, ![131072, 16]⟩
abbrev SW1 : Shape := ⟨2, ![128, 64]⟩
abbrev SW2 : Shape := ⟨2, ![64, 16]⟩

/-- A scale's feature array: the product of its six interpolated planes, left to right, index by index. -/
def prod6 (a0 a1 a2 a3 a4 a5 : FVec Ideal SN32 .f32) : FVec Ideal SN32 .f32 :=
  fun i => ((((a0 i * a1 i) * a2 i) * a3 i) * a4 i) * a5 i

/-- Rows `32 s + k` of the first weight matrix, for scale `s` and feature `k`. -/
def w1row (s : Fin 4) (k : Fin 32) : Fin 128 := ⟨32 * s.val + k.val, by have := s.isLt; have := k.isLt; omega⟩

/-- Scale `s`'s partial sum for row `n`, hidden unit `q`. -/
def part (f : FVec Ideal SN32 .f32) (W1 : FVec Ideal SW1 .f32) (s : Fin 4) (n : Fin 131072) (q : Fin 64) : EReal :=
  ∑ k : Fin 32, f (ix2 n k) * W1 (ix2 (w1row s k) q)

/-- The hidden layer at row `n`, unit `q`: the four partial sums added left to right, clipped below at 0. -/
def hidden (f0 f1 f2 f3 : FVec Ideal SN32 .f32) (W1 : FVec Ideal SW1 .f32) (n : Fin 131072) (q : Fin 64) : EReal :=
  max (((part f0 W1 0 n q + part f1 W1 1 n q) + part f2 W1 2 n q) + part f3 W1 3 n q) 0

/-- The second product at row `n`, column `j`. -/
def outRaw (f0 f1 f2 f3 : FVec Ideal SN32 .f32) (W1 : FVec Ideal SW1 .f32) (W2 : FVec Ideal SW2 .f32)
    (n : Fin 131072) (j : Fin 16) : EReal :=
  ∑ q : Fin 64, hidden f0 f1 f2 f3 W1 n q * W2 (ix2 q j)

/-- The result array: column 0 is the density `exp (raw column 15)`, column `j ≥ 1` is raw column `j - 1`. -/
def mlp (f0 f1 f2 f3 : FVec Ideal SN32 .f32) (W1 : FVec Ideal SW1 .f32) (W2 : FVec Ideal SW2 .f32) : FVec Ideal SN16 .f32 :=
  fun i =>
    if (i 1).val = 0 then Ideal.exp (outRaw f0 f1 f2 f3 W1 W2 ⟨(i 0).val, idx2_lt0 i⟩ ⟨15, by decide⟩)
    else outRaw f0 f1 f2 f3 W1 W2 ⟨(i 0).val, idx2_lt0 i⟩ ⟨(i 1).val - 1, by have := idx2_lt1 i; omega⟩

/-- `mlp` at explicit coordinates, column 0. -/
theorem mlp_col0 (f0 f1 f2 f3 : FVec Ideal SN32 .f32) (W1 : FVec Ideal SW1 .f32) (W2 : FVec Ideal SW2 .f32) (n : Fin 131072) :
    mlp f0 f1 f2 f3 W1 W2 (ix2 n (0 : Fin 16)) = Ideal.exp (outRaw f0 f1 f2 f3 W1 W2 n ⟨15, by decide⟩) := by
  unfold mlp; rw [if_pos (by rfl)]

/-- `mlp` at explicit coordinates, column `j + 1`. -/
theorem mlp_colSucc (f0 f1 f2 f3 : FVec Ideal SN32 .f32) (W1 : FVec Ideal SW1 .f32) (W2 : FVec Ideal SW2 .f32) (n : Fin 131072)
    (j : Fin 15) :
    mlp f0 f1 f2 f3 W1 W2 (ix2 n (⟨j.val + 1, by have := j.isLt; omega⟩ : Fin 16))
      = outRaw f0 f1 f2 f3 W1 W2 n ⟨j.val, by have := j.isLt; omega⟩ := by
  unfold mlp; rw [if_neg (by show ¬ (j.val + 1 = 0); omega)]; rfl

end Cert.KPlanes

end
-- ==== Proof.KernelBlocks.lean ====
/-
  The pieces of the kernel's value that do not mention the region's run.

  * One entry of the stored block is the specification's row formula (`entry_eq`): for blocks whose row `p` is row
    `n` of the arrays they were cut from, first-layer operands that are rows 32 s … 32 s + 31 of the first weight
    matrix (`ld_w1_s`: a load of 32 rows from row 32 s of a [128,64] block), and the second weight matrix whole.
  * The windows' index maps over the 128 grid points (`idx0` … `idx26`): at point `t` each of the 24 data
    windows and the output window sit at block (t, 0), the two weight windows at block (0, 0).
  * A window's block read off ANY array of its shape (`read_blk0` … `read_blk25`): a data window's block at point `t`
    is rows 1024 t … 1024 t + 1023 of the array, a weight window's block is the whole array.
  * The output's 128 blocks of 1024 rows tile the result's 131072 rows: row `r` lies in block `r / 1024` (`cover`).
-/
import proofs.«133805_j10187662426200_2_alg».proof.Proof.Gen.KernelIdeal.Launch
import proofs.«133805_j10187662426200_2_alg».proof.Proof.Gen.KernelIdeal.Points
import proofs.«133805_j10187662426200_2_alg».proof.Proof.Gen.KernelIdeal.Skeleton
import proofs.«133805_j10187662426200_2_alg».proof.Proof.KernelPayload
import proofs.«133805_j10187662426200_2_alg».proof.Proof.Spec
import Idealize.ShloMosaic.Lib.Pipeline.Value
import Idealize.ShloMosaic.Lib.Tactic

set_option maxRecDepth 16384
-- one decided fact at a time: each runs over the 128 grid points
set_option Elab.async false

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.KPlanes (SN32 SN16 SW1 SW2 prod6 w1row outRaw mlp)

/-! ## One entry of a block, over the rows of the arrays it was cut from -/

/-- Rows 32 s … 32 s + 31 of a [128,64] block, read at (k, q): its row 32 s + k. -/
theorem ld_w1_0 (inb : ∀ a, (![0, 0] : Fin 2 → Nat) a + S32x64.size a ≤ S128x64.size a)
    (X : Vec Ideal S128x64 .f32) (k : Fin 32) (q : Fin 64) :
    View.ld X (Rect.unit (s := S128x64) ![0, 0] S32x64.size inb) (ix2 k q) = X (ix2 (w1row 0 k) q) := by
  show X _ = X _
  refine congrArg X (funext fun a => Fin.ext ?_)
  match a with
  | ⟨0, _⟩ => show 0 + 1 * k.val = 32 * 0 + k.val; omega
  | ⟨1, _⟩ => show 0 + 1 * q.val = q.val; omega
theorem ld_w1_1 (inb : ∀ a, (![32, 0] : Fin 2 → Nat) a + S32x64.size a ≤ S128x64.size a)
    (X : Vec Ideal S128x64 .f32) (k : Fin 32) (q : Fin 64) :
    View.ld X (Rect.unit (s := S128x64) ![32, 0] S32x64.size inb) (ix2 k q) = X (ix2 (w1row 1 k) q) := by
  show X _ = X _
  refine congrArg X (funext fun a => Fin.ext ?_)
  match a with
  | ⟨0, _⟩ => show 32 + 1 * k.val = 32 * 1 + k.val; omega
  | ⟨1, _⟩ => show 0 + 1 * q.val = q.val; omega
theorem ld_w1_2 (inb : ∀ a, (![64, 0] : Fin 2 → Nat) a + S32x64.size a ≤ S128x64.size a)
    (X : Vec Ideal S128x64 .f32) (k : Fin 32) (q : Fin 64) :
    View.ld X (Rect.unit (s := S128x64) ![64, 0] S32x64.size inb) (ix2 k q) = X (ix2 (w1row 2 k) q) := by
  show X _ = X _
  refine congrArg X (funext fun a => Fin.ext ?_)
  match a with
  | ⟨0, _⟩ => show 64 + 1 * k.val = 32 * 2 + k.val; omega
  | ⟨1, _⟩ => show 0 + 1 * q.val = q.val; omega
theorem ld_w1_3 (inb : ∀ a, (![96, 0] : Fin 2 → Nat) a + S32x64.size a ≤ S128x64.size a)
    (X : Vec Ideal S128x64 .f32) (k : Fin 32) (q : Fin 64) :
    View.ld X (Rect.unit (s := S128x64) ![96, 0] S32x64.size inb) (ix2 k q) = X (ix2 (w1row 3 k) q) := by
  show X _ = X _
  refine congrArg X (funext fun a => Fin.ext ?_)
  match a with
  | ⟨0, _⟩ => show 96 + 1 * k.val = 32 * 3 + k.val; omega
  | ⟨1, _⟩ => show 0 + 1 * q.val = q.val; omega

/-- THE STORED BLOCK AT ONE ENTRY is the specification there: for blocks whose row `p` is row `n` of the arrays
    they were cut from (`h0` … `h23`), first-layer operands that are the four 32-row slices of the first weight
    matrix (`hwa` … `hwd`) and a second-layer operand that is the second weight matrix (`hW2`), entry (p, j) of the
    stored block is entry (n, j) of `mlp`. -/
theorem entry_eq (x0 x1 x2 x3 x4 x5 x6 x7 x8 x9 x10 x11 x12 x13 x14 x15 x16 x17 x18 x19 x20 x21 x22 x23 : Vec Ideal S1024x32 .f32)
    (wa wb wc wd : Vec Ideal S32x64 .f32) (xw2 : Vec Ideal S64x16 .f32)
    (a0 a1 a2 a3 a4 a5 a6 a7 a8 a9 a10 a11 a12 a13 a14 a15 a16 a17 a18 a19 a20 a21 a22 a23 : FVec Ideal SN32 .f32)
    (W1 : FVec Ideal SW1 .f32) (W2 : FVec Ideal SW2 .f32) (p : Fin 1024) (j : Fin 16) (n : Fin 131072)
    (h0 : ∀ k : Fin 32, x0 (ix2 p k) = a0 (ix2 n k))
    (h1 : ∀ k : Fin 32, x1 (ix2 p k) = a1 (ix2 n k))
    (h2 : ∀ k : Fin 32, x2 (ix2 p k) = a2 (ix2 n k))
    (h3 : ∀ k : Fin 32, x3 (ix2 p k) = a3 (ix2 n k))
    (h4 : ∀ k : Fin 32, x4 (ix2 p k) = a4 (ix2 n k))
    (h5 : ∀ k : Fin 32, x5 (ix2 p k) = a5 (ix2 n k))
    (h6 : ∀ k : Fin 32, x6 (ix2 p k) = a6 (ix2 n k))
    (h7 : ∀ k : Fin 32, x7 (ix2 p k) = a7 (ix2 n k))
    (h8 : ∀ k : Fin 32, x8 (ix2 p k) = a8 (ix2 n k))
    (h9 : ∀ k : Fin 32, x9 (ix2 p k) = a9 (ix2 n k))
    (h10 : ∀ k : Fin 32, x10 (ix2 p k) = a10 (ix2 n k))
    (h11 : ∀ k : Fin 32, x11 (ix2 p k) = a11 (ix2 n k))
    (h12 : ∀ k : Fin 32, x12 (ix2 p k) = a12 (ix2 n k))
    (h13 : ∀ k : Fin 32, x13 (ix2 p k) = a13 (ix2 n k))
    (h14 : ∀ k : Fin 32, x14 (ix2 p k) = a14 (ix2 n k))
    (h15 : ∀ k : Fin 32, x15 (ix2 p k) = a15 (ix2 n k))
    (h16 : ∀ k : Fin 32, x16 (ix2 p k) = a16 (ix2 n k))
    (h17 : ∀ k : Fin 32, x17 (ix2 p k) = a17 (ix2 n k))
    (h18 : ∀ k : Fin 32, x18 (ix2 p k) = a18 (ix2 n k))
    (h19 : ∀ k : Fin 32, x19 (ix2 p k) = a19 (ix2 n k))
    (h20 : ∀ k : Fin 32, x20 (ix2 p k) = a20 (ix2 n k))
    (h21 : ∀ k : Fin 32, x21 (ix2 p k) = a21 (ix2 n k))
    (h22 : ∀ k : Fin 32, x22 (ix2 p k) = a22 (ix2 n k))
    (h23 : ∀ k : Fin 32, x23 (ix2 p k) = a23 (ix2 n k))
    (hwa : ∀ (k : Fin 32) (q : Fin 64), wa (ix2 k q) = W1 (ix2 (w1row 0 k) q))
    (hwb : ∀ (k : Fin 32) (q : Fin 64), wb (ix2 k q) = W1 (ix2 (w1row 1 k) q))
    (hwc : ∀ (k : Fin 32) (q : Fin 64), wc (ix2 k q) = W1 (ix2 (w1row 2 k) q))
    (hwd : ∀ (k : Fin 32) (q : Fin 64), wd (ix2 k q) = W1 (ix2 (w1row 3 k) q))
    (hW2 : ∀ (q : Fin 64) (j : Fin 16), xw2 (ix2 q j) = W2 (ix2 q j)) :
    k0_pay1 (k0_pay5 (k0_pay2 x0 x1 x2 x3 x4 x5 wa) (k0_pay3 x6 x7 x8 x9) (k0_pay4 x10) x11 wb
        x12 x13 x14 x15 x16 x17 wc) (k0_pay6 x18 x19) x20 x21 x22 x23 wd xw2 (ix2 p j)
      = mlp (prod6 a0 a1 a2 a3 a4 a5) (prod6 a6 a7 a8 a9 a10 a11) (prod6 a12 a13 a14 a15 a16 a17) (prod6 a18 a19 a20 a21 a22 a23) W1 W2 (ix2 n j) := by
  have hraw : ∀ jj : Fin 16,
      braw (bprod6 x0 x1 x2 x3 x4 x5) (bprod6 x6 x7 x8 x9 x10 x11) (bprod6 x12 x13 x14 x15 x16 x17) (bprod6 x18 x19 x20 x21 x22 x23)
          wa wb wc wd xw2 p jj
        = outRaw (prod6 a0 a1 a2 a3 a4 a5) (prod6 a6 a7 a8 a9 a10 a11) (prod6 a12 a13 a14 a15 a16 a17) (prod6 a18 a19 a20 a21 a22 a23) W1 W2 n jj := by
    intro jj
    unfold braw bhidden bpart bprod6 Cert.KPlanes.outRaw Cert.KPlanes.hidden Cert.KPlanes.part Cert.KPlanes.prod6
    simp only [h0, h1, h2, h3, h4, h5, h6, h7, h8, h9, h10, h11, h12, h13, h14, h15, h16, h17, h18, h19, h20, h21, h22, h23, hW2, hwa, hwb, hwc, hwd]
  by_cases hj : j.val = 0
  · obtain rfl : j = (0 : Fin 16) := Fin.ext hj
    rw [pay_col0, Cert.KPlanes.mlp_col0, hraw]
  · obtain ⟨j', rfl⟩ : ∃ j' : Fin 15, j = ⟨j'.val + 1, by have := j'.isLt; omega⟩ :=
      ⟨⟨j.val - 1, by have := j.isLt; omega⟩, Fin.ext (by show j.val = j.val - 1 + 1; omega)⟩
    rw [pay_colSucc, Cert.KPlanes.mlp_colSucc, hraw]

/-! ## The windows' index maps over the grid -/

theorem hz : (![0, 0] : Fin 2 → Nat) = fun _ => 0 := funext fun a => by fin_cases a <;> rfl

/-- The grid has 128 points. -/
theorem N_eq : cfg0.N = 128 := N_0

/-- Window 0's block index at point `t` is (t, 0). -/
theorem idx0 : ∀ t : Fin cfg0.N, win0_0.index t (0 : Fin 2) = t.val ∧ win0_0.index t (1 : Fin 2) = 0 :=
  (by decide +kernel : ∀ t : Fin grid0.N, _)
/-- Window 1's block index at point `t` is (t, 0). -/
theorem idx1 : ∀ t : Fin cfg0.N, win0_1.index t (0 : Fin 2) = t.val ∧ win0_1.index t (1 : Fin 2) = 0 :=
  (by decide +kernel : ∀ t : Fin grid0.N, _)
/-- Window 2's block index at point `t` is (t, 0). -/
theorem idx2 : ∀ t : Fin cfg0.N, win0_2.index t (0 : Fin 2) = t.val ∧ win0_2.index t (1 : Fin 2) = 0 :=
  (by decide +kernel : ∀ t : Fin grid0.N, _)
/-- Window 3's block index at point `t` is (t, 0). -/
theorem idx3 : ∀ t : Fin cfg0.N, win0_3.index t (0 : Fin 2) = t.val ∧ win0_3.index t (1 : Fin 2) = 0 :=
  (by decide +kernel : ∀ t : Fin grid0.N, _)
/-- Window 4's block index at point `t` is (t, 0). -/
theorem idx4 : ∀ t : Fin cfg0.N, win0_4.index t (0 : Fin 2) = t.val ∧ win0_4.index t (1 : Fin 2) = 0 :=
  (by decide +kernel : ∀ t : Fin grid0.N, _)
/-- Window 5's block index at point `t` is (t, 0). -/
theorem idx5 : ∀ t : Fin cfg0.N, win0_5.index t (0 : Fin 2) = t.val ∧ win0_5.index t (1 : Fin 2) = 0 :=
  (by decide +kernel : ∀ t : Fin grid0.N, _)
/-- Window 6's block index at point `t` is (t, 0). -/
theorem idx6 : ∀ t : Fin cfg0.N, win0_6.index t (0 : Fin 2) = t.val ∧ win0_6.index t (1 : Fin 2) = 0 :=
  (by decide +kernel : ∀ t : Fin grid0.N, _)
/-- Window 7's block index at point `t` is (t, 0). -/
theorem idx7 : ∀ t : Fin cfg0.N, win0_7.index t (0 : Fin 2) = t.val ∧ win0_7.index t (1 : Fin 2) = 0 :=
  (by decide +kernel : ∀ t : Fin grid0.N, _)
/-- Window 8's block index at point `t` is (t, 0). -/
theorem idx8 : ∀ t : Fin cfg0.N, win0_8.index t (0 : Fin 2) = t.val ∧ win0_8.index t (1 : Fin 2) = 0 :=
  (by decide +kernel : ∀ t : Fin grid0.N, _)
/-- Window 9's block index at point `t` is (t, 0). -/
theorem idx9 : ∀ t : Fin cfg0.N, win0_9.index t (0 : Fin 2) = t.val ∧ win0_9.index t (1 : Fin 2) = 0 :=
  (by decide +kernel : ∀ t : Fin grid0.N, _)
/-- Window 10's block index at point `t` is (t, 0). -/
theorem idx10 : ∀ t : Fin cfg0.N, win0_10.index t (0 : Fin 2) = t.val ∧ win0_10.index t (1 : Fin 2) = 0 :=
  (by decide +kernel : ∀ t : Fin grid0.N, _)
/-- Window 11's block index at point `t` is (t, 0). -/
theorem idx11 : ∀ t : Fin cfg0.N, win0_11.index t (0 : Fin 2) = t.val ∧ win0_11.index t (1 : Fin 2) = 0 :=
  (by decide +kernel : ∀ t : Fin grid0.N, _)
/-- Window 12's block index at point `t` is (t, 0). -/
theorem idx12 : ∀ t : Fin cfg0.N, win0_12.index t (0 : Fin 2) = t.val ∧ win0_12.index t (1 : Fin 2) = 0 :=
  (by decide +kernel : ∀ t : Fin grid0.N, _)
/-- Window 13's block index at point `t` is (t, 0). -/
theorem idx13 : ∀ t : Fin cfg0.N, win0_13.index t (0 : Fin 2) = t.val ∧ win0_13.index t (1 : Fin 2) = 0 :=
  (by decide +kernel : ∀ t : Fin grid0.N, _)
/-- Window 14's block index at point `t` is (t, 0). -/
theorem idx14 : ∀ t : Fin cfg0.N, win0_14.index t (0 : Fin 2) = t.val ∧ win0_14.index t (1 : Fin 2) = 0 :=
  (by decide +kernel : ∀ t : Fin grid0.N, _)
/-- Window 15's block index at point `t` is (t, 0). -/
theorem idx15 : ∀ t : Fin cfg0.N, win0_15.index t (0 : Fin 2) = t.val ∧ win0_15.index t (1 : Fin 2) = 0 :=
  (by decide +kernel : ∀ t : Fin grid0.N, _)
/-- Window 16's block index at point `t` is (t, 0). -/
theorem idx16 : ∀ t : Fin cfg0.N, win0_16.index t (0 : Fin 2) = t.val ∧ win0_16.index t (1 : Fin 2) = 0 :=
  (by decide +kernel : ∀ t : Fin grid0.N, _)
/-- Window 17's block index at point `t` is (t, 0). -/
theorem idx17 : ∀ t : Fin cfg0.N, win0_17.index t (0 : Fin 2) = t.val ∧ win0_17.index t (1 : Fin 2) = 0 :=
  (by decide +kernel : ∀ t : Fin grid0.N, _)
/-- Window 18's block index at point `t` is (t, 0). -/
theorem idx18 : ∀ t : Fin cfg0.N, win0_18.index t (0 : Fin 2) = t.val ∧ win0_18.index t (1 : Fin 2) = 0 :=
  (by decide +kernel : ∀ t : Fin grid0.N, _)
/-- Window 19's block index at point `t` is (t, 0). -/
theorem idx19 : ∀ t : Fin cfg0.N, win0_19.index t (0 : Fin 2) = t.val ∧ win0_19.index t (1 : Fin 2) = 0 :=
  (by decide +kernel : ∀ t : Fin grid0.N, _)
/-- Window 20's block index at point `t` is (t, 0). -/
theorem idx20 : ∀ t : Fin cfg0.N, win0_20.index t (0 : Fin 2) = t.val ∧ win0_20.index t (1 : Fin 2) = 0 :=
  (by decide +kernel : ∀ t : Fin grid0.N, _)
/-- Window 21's block index at point `t` is (t, 0). -/
theorem idx21 : ∀ t : Fin cfg0.N, win0_21.index t (0 : Fin 2) = t.val ∧ win0_21.index t (1 : Fin 2) = 0 :=
  (by decide +kernel : ∀ t : Fin grid0.N, _)
/-- Window 22's block index at point `t` is (t, 0). -/
theorem idx22 : ∀ t : Fin cfg0.N, win0_22.index t (0 : Fin 2) = t.val ∧ win0_22.index t (1 : Fin 2) = 0 :=
  (by decide +kernel : ∀ t : Fin grid0.N, _)
/-- Window 23's block index at point `t` is (t, 0). -/
theorem idx23 : ∀ t : Fin cfg0.N, win0_23.index t (0 : Fin 2) = t.val ∧ win0_23.index t (1 : Fin 2) = 0 :=
  (by decide +kernel : ∀ t : Fin grid0.N, _)
/-- The two weight windows' block index is (0, 0) at every point. -/
theorem idx24 : ∀ t : Fin cfg0.N, win0_24.index t (0 : Fin 2) = 0 ∧ win0_24.index t (1 : Fin 2) = 0 :=
  (by decide +kernel : ∀ t : Fin grid0.N, _)
theorem idx25 : ∀ t : Fin cfg0.N, win0_25.index t (0 : Fin 2) = 0 ∧ win0_25.index t (1 : Fin 2) = 0 :=
  (by decide +kernel : ∀ t : Fin grid0.N, _)
/-- The output window's block index at point `t` is (t, 0). -/
theorem idx26 : ∀ t : Fin cfg0.N, win0_26.index t (0 : Fin 2) = t.val ∧ win0_26.index t (1 : Fin 2) = 0 :=
  (by decide +kernel : ∀ t : Fin grid0.N, _)

/-! ## A window's block, read off any array -/

/-- Window 0's block at point `t`, read off any array, is rows 1024 t … 1024 t + 1023 of it. -/
theorem read_blk0 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 0).blk t).view.read (Elt Ideal) A x = A k := by
  obtain ⟨e0, e1⟩ := idx0 t
  rw [View.read_apply]
  show A _ = A _
  refine congrArg A (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 32 + 1 * (x 1).val = (k 1).val; rw [e1, hk1]; omega
/-- Window 1's block at point `t`, read off any array, is rows 1024 t … 1024 t + 1023 of it. -/
theorem read_blk1 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 1).blk t).view.read (Elt Ideal) A x = A k := by
  obtain ⟨e0, e1⟩ := idx1 t
  rw [View.read_apply]
  show A _ = A _
  refine congrArg A (funext fun a => Fin.ext ?_)
  match a with
  | ⟨0, _⟩ => show win0_1.index t (0 : Fin 2) * 1024 + 1 * (x 0).val = (k 0).val; rw [e0, hk0]; omega
  | ⟨1, _⟩ => show win0_1.index t (1 : Fin 2) * 32 + 1 * (x 1).val = (k 1).val; rw [e1, hk1]; omega
/-- Window 2's block at point `t`, read off any array, is rows 1024 t … 1024 t + 1023 of it. -/
theorem read_blk2 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 2).blk t).view.read (Elt Ideal) A x = A k := by
  obtain ⟨e0, e1⟩ := idx2 t
  rw [View.read_apply]
  show A _ = A _
  refine congrArg A (funext fun a => Fin.ext ?_)
  match a with
  | ⟨0, _⟩ => show win0_2.index t (0 : Fin 2) * 1024 + 1 * (x 0).val = (k 0).val; rw [e0, hk0]; omega
  | ⟨1, _⟩ => show win0_2.index t (1 : Fin 2) * 32 + 1 * (x 1).val = (k 1).val; rw [e1, hk1]; omega
/-- Window 3's block at point `t`, read off any array, is rows 1024 t … 1024 t + 1023 of it. -/
theorem read_blk3 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 3).blk t).view.read (Elt Ideal) A x = A k := by
  obtain ⟨e0, e1⟩ := idx3 t
  rw [View.read_apply]
  show A _ = A _
  refine congrArg A (funext fun a => Fin.ext ?_)
  match a with
  | ⟨0, _⟩ => show win0_3.index t (0 : Fin 2) * 1024 + 1 * (x 0).val = (k 0).val; rw [e0, hk0]; omega
  | ⟨1, _⟩ => show win0_3.index t (1 : Fin 2) * 32 + 1 * (x 1).val = (k 1).val; rw [e1, hk1]; omega
/-- Window 4's block at point `t`, read off any array, is rows 1024 t … 1024 t + 1023 of it. -/
theorem read_blk4 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 4).blk t).view.read (Elt Ideal) A x = A k := by
  obtain ⟨e0, e1⟩ := idx4 t
  rw [View.read_apply]
  show A _ = A _
  refine congrArg A (funext fun a => Fin.ext ?_)
  match a with
  | ⟨0, _⟩ => show win0_4.index t (0 : Fin 2) * 1024 + 1 * (x 0).val = (k 0).val; rw [e0, hk0]; omega
  | ⟨1, _⟩ => show win0_4.index t (1 : Fin 2) * 32 + 1 * (x 1).val = (k 1).val; rw [e1, hk1]; omega
/-- Window 5's block at point `t`, read off any array, is rows 1024 t … 1024 t + 1023 of it. -/
theorem read_blk5 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 5).blk t).view.read (Elt Ideal) A x = A k := by
  obtain ⟨e0, e1⟩ := idx5 t
  rw [View.read_apply]
  show A _ = A _
  refine congrArg A (funext fun a => Fin.ext ?_)
  match a with
  | ⟨0, _⟩ => show win0_5.index t (0 : Fin 2) * 1024 + 1 * (x 0).val = (k 0).val; rw [e0, hk0]; omega
  | ⟨1, _⟩ => show win0_5.index t (1 : Fin 2) * 32 + 1 * (x 1).val = (k 1).val; rw [e1, hk1]; omega
/-- Window 6's block at point `t`, read off any array, is rows 1024 t … 1024 t + 1023 of it. -/
theorem read_blk6 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 6).blk t).view.read (Elt Ideal) A x = A k := by
  obtain ⟨e0, e1⟩ := idx6 t
  rw [View.read_apply]
  show A _ = A _
  refine congrArg A (funext fun a => Fin.ext ?_)
  match a with
  | ⟨0, _⟩ => show win0_6.index t (0 : Fin 2) * 1024 + 1 * (x 0).val = (k 0).val; rw [e0, hk0]; omega
  | ⟨1, _⟩ => show win0_6.index t (1 : Fin 2) * 32 + 1 * (x 1).val = (k 1).val; rw [e1, hk1]; omega
/-- Window 7's block at point `t`, read off any array, is rows 1024 t … 1024 t + 1023 of it. -/
theorem read_blk7 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 7).blk t).view.read (Elt Ideal) A x = A k := by
  obtain ⟨e0, e1⟩ := idx7 t
  rw [View.read_apply]
  show A _ = A _
  refine congrArg A (funext fun a => Fin.ext ?_)
  match a with
  | ⟨0, _⟩ => show win0_7.index t (0 : Fin 2) * 1024 + 1 * (x 0).val = (k 0).val; rw [e0, hk0]; omega
  | ⟨1, _⟩ => show win0_7.index t (1 : Fin 2) * 32 + 1 * (x 1).val = (k 1).val; rw [e1, hk1]; omega
/-- Window 8's block at point `t`, read off any array, is rows 1024 t … 1024 t + 1023 of it. -/
theorem read_blk8 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 8).blk t).view.read (Elt Ideal) A x = A k := by
  obtain ⟨e0, e1⟩ := idx8 t
  rw [View.read_apply]
  show A _ = A _
  refine congrArg A (funext fun a => Fin.ext ?_)
  match a with
  | ⟨0, _⟩ => show win0_8.index t (0 : Fin 2) * 1024 + 1 * (x 0).val = (k 0).val; rw [e0, hk0]; omega
  | ⟨1, _⟩ => show win0_8.index t (1 : Fin 2) * 32 + 1 * (x 1).val = (k 1).val; rw [e1, hk1]; omega
/-- Window 9's block at point `t`, read off any array, is rows 1024 t … 1024 t + 1023 of it. -/
theorem read_blk9 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 9).blk t).view.read (Elt Ideal) A x = A k := by
  obtain ⟨e0, e1⟩ := idx9 t
  rw [View.read_apply]
  show A _ = A _
  refine congrArg A (funext fun a => Fin.ext ?_)
  match a with
  | ⟨0, _⟩ => show win0_9.index t (0 : Fin 2) * 1024 + 1 * (x 0).val = (k 0).val; rw [e0, hk0]; omega
  | ⟨1, _⟩ => show win0_9.index t (1 : Fin 2) * 32 + 1 * (x 1).val = (k 1).val; rw [e1, hk1]; omega
/-- Window 10's block at point `t`, read off any array, is rows 1024 t … 1024 t + 1023 of it. -/
theorem read_blk10 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 10).blk t).view.read (Elt Ideal) A x = A k := by
  obtain ⟨e0, e1⟩ := idx10 t
  rw [View.read_apply]
  show A _ = A _
  refine congrArg A (funext fun a => Fin.ext ?_)
  match a with
  | ⟨0, _⟩ => show win0_10.index t (0 : Fin 2) * 1024 + 1 * (x 0).val = (k 0).val; rw [e0, hk0]; omega
  | ⟨1, _⟩ => show win0_10.index t (1 : Fin 2) * 32 + 1 * (x 1).val = (k 1).val; rw [e1, hk1]; omega
/-- Window 11's block at point `t`, read off any array, is rows 1024 t … 1024 t + 1023 of it. -/
theorem read_blk11 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 11).blk t).view.read (Elt Ideal) A x = A k := by
  obtain ⟨e0, e1⟩ := idx11 t
  rw [View.read_apply]
  show A _ = A _
  refine congrArg A (funext fun a => Fin.ext ?_)
  match a with
  | ⟨0, _⟩ => show win0_11.index t (0 : Fin 2) * 1024 + 1 * (x 0).val = (k 0).val; rw [e0, hk0]; omega
  | ⟨1, _⟩ => show win0_11.index t (1 : Fin 2) * 32 + 1 * (x 1).val = (k 1).val; rw [e1, hk1]; omega
/-- Window 12's block at point `t`, read off any array, is rows 1024 t … 1024 t + 1023 of it. -/
theorem read_blk12 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 12).blk t).view.read (Elt Ideal) A x = A k := by
  obtain ⟨e0, e1⟩ := idx12 t
  rw [View.read_apply]
  show A _ = A _
  refine congrArg A (funext fun a => Fin.ext ?_)
  match a with
  | ⟨0, _⟩ => show win0_12.index t (0 : Fin 2) * 1024 + 1 * (x 0).val = (k 0).val; rw [e0, hk0]; omega
  | ⟨1, _⟩ => show win0_12.index t (1 : Fin 2) * 32 + 1 * (x 1).val = (k 1).val; rw [e1, hk1]; omega
/-- Window 13's block at point `t`, read off any array, is rows 1024 t … 1024 t + 1023 of it. -/
theorem read_blk13 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 13).blk t).view.read (Elt Ideal) A x = A k := by
  obtain ⟨e0, e1⟩ := idx13 t
  rw [View.read_apply]
  show A _ = A _
  refine congrArg A (funext fun a => Fin.ext ?_)
  match a with
  | ⟨0, _⟩ => show win0_13.index t (0 : Fin 2) * 1024 + 1 * (x 0).val = (k 0).val; rw [e0, hk0]; omega
  | ⟨1, _⟩ => show win0_13.index t (1 : Fin 2) * 32 + 1 * (x 1).val = (k 1).val; rw [e1, hk1]; omega
/-- Window 14's block at point `t`, read off any array, is rows 1024 t … 1024 t + 1023 of it. -/
theorem read_blk14 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 14).blk t).view.read (Elt Ideal) A x = A k := by
  obtain ⟨e0, e1⟩ := idx14 t
  rw [View.read_apply]
  show A _ = A _
  refine congrArg A (funext fun a => Fin.ext ?_)
  match a with
  | ⟨0, _⟩ => show win0_14.index t (0 : Fin 2) * 1024 + 1 * (x 0).val = (k 0).val; rw [e0, hk0]; omega
  | ⟨1, _⟩ => show win0_14.index t (1 : Fin 2) * 32 + 1 * (x 1).val = (k 1).val; rw [e1, hk1]; omega
/-- Window 15's block at point `t`, read off any array, is rows 1024 t … 1024 t + 1023 of it. -/
theorem read_blk15 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 15).blk t).view.read (Elt Ideal) A x = A k := by
  obtain ⟨e0, e1⟩ := idx15 t
  rw [View.read_apply]
  show A _ = A _
  refine congrArg A (funext fun a => Fin.ext ?_)
  match a with
  | ⟨0, _⟩ => show win0_15.index t (0 : Fin 2) * 1024 + 1 * (x 0).val = (k 0).val; rw [e0, hk0]; omega
  | ⟨1, _⟩ => show win0_15.index t (1 : Fin 2) * 32 + 1 * (x 1).val = (k 1).val; rw [e1, hk1]; omega
/-- Window 16's block at point `t`, read off any array, is rows 1024 t … 1024 t + 1023 of it. -/
theorem read_blk16 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 16).blk t).view.read (Elt Ideal) A x = A k := by
  obtain ⟨e0, e1⟩ := idx16 t
  rw [View.read_apply]
  show A _ = A _
  refine congrArg A (funext fun a => Fin.ext ?_)
  match a with
  | ⟨0, _⟩ => show win0_16.index t (0 : Fin 2) * 1024 + 1 * (x 0).val = (k 0).val; rw [e0, hk0]; omega
  | ⟨1, _⟩ => show win0_16.index t (1 : Fin 2) * 32 + 1 * (x 1).val = (k 1).val; rw [e1, hk1]; omega
/-- Window 17's block at point `t`, read off any array, is rows 1024 t … 1024 t + 1023 of it. -/
theorem read_blk17 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 17).blk t).view.read (Elt Ideal) A x = A k := by
  obtain ⟨e0, e1⟩ := idx17 t
  rw [View.read_apply]
  show A _ = A _
  refine congrArg A (funext fun a => Fin.ext ?_)
  match a with
  | ⟨0, _⟩ => show win0_17.index t (0 : Fin 2) * 1024 + 1 * (x 0).val = (k 0).val; rw [e0, hk0]; omega
  | ⟨1, _⟩ => show win0_17.index t (1 : Fin 2) * 32 + 1 * (x 1).val = (k 1).val; rw [e1, hk1]; omega
/-- Window 18's block at point `t`, read off any array, is rows 1024 t … 1024 t + 1023 of it. -/
theorem read_blk18 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 18).blk t).view.read (Elt Ideal) A x = A k := by
  obtain ⟨e0, e1⟩ := idx18 t
  rw [View.read_apply]
  show A _ = A _
  refine congrArg A (funext fun a => Fin.ext ?_)
  match a with
  | ⟨0, _⟩ => show win0_18.index t (0 : Fin 2) * 1024 + 1 * (x 0).val = (k 0).val; rw [e0, hk0]; omega
  | ⟨1, _⟩ => show win0_18.index t (1 : Fin 2) * 32 + 1 * (x 1).val = (k 1).val; rw [e1, hk1]; omega
/-- Window 19's block at point `t`, read off any array, is rows 1024 t … 1024 t + 1023 of it. -/
theorem read_blk19 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 19).blk t).view.read (Elt Ideal) A x = A k := by
  obtain ⟨e0, e1⟩ := idx19 t
  rw [View.read_apply]
  show A _ = A _
  refine congrArg A (funext fun a => Fin.ext ?_)
  match a with
  | ⟨0, _⟩ => show win0_19.index t (0 : Fin 2) * 1024 + 1 * (x 0).val = (k 0).val; rw [e0, hk0]; omega
  | ⟨1, _⟩ => show win0_19.index t (1 : Fin 2) * 32 + 1 * (x 1).val = (k 1).val; rw [e1, hk1]; omega
/-- Window 20's block at point `t`, read off any array, is rows 1024 t … 1024 t + 1023 of it. -/
theorem read_blk20 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 20).blk t).view.read (Elt Ideal) A x = A k := by
  obtain ⟨e0, e1⟩ := idx20 t
  rw [View.read_apply]
  show A _ = A _
  refine congrArg A (funext fun a => Fin.ext ?_)
  match a with
  | ⟨0, _⟩ => show win0_20.index t (0 : Fin 2) * 1024 + 1 * (x 0).val = (k 0).val; rw [e0, hk0]; omega
  | ⟨1, _⟩ => show win0_20.index t (1 : Fin 2) * 32 + 1 * (x 1).val = (k 1).val; rw [e1, hk1]; omega
/-- Window 21's block at point `t`, read off any array, is rows 1024 t … 1024 t + 1023 of it. -/
theorem read_blk21 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 21).blk t).view.read (Elt Ideal) A x = A k := by
  obtain ⟨e0, e1⟩ := idx21 t
  rw [View.read_apply]
  show A _ = A _
  refine congrArg A (funext fun a => Fin.ext ?_)
  match a with
  | ⟨0, _⟩ => show win0_21.index t (0 : Fin 2) * 1024 + 1 * (x 0).val = (k 0).val; rw [e0, hk0]; omega
  | ⟨1, _⟩ => show win0_21.index t (1 : Fin 2) * 32 + 1 * (x 1).val = (k 1).val; rw [e1, hk1]; omega
/-- Window 22's block at point `t`, read off any array, is rows 1024 t … 1024 t + 1023 of it. -/
theorem read_blk22 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 22).blk t).view.read (Elt Ideal) A x = A k := by
  obtain ⟨e0, e1⟩ := idx22 t
  rw [View.read_apply]
  show A _ = A _
  refine congrArg A (funext fun a => Fin.ext ?_)
  match a with
  | ⟨0, _⟩ => show win0_22.index t (0 : Fin 2) * 1024 + 1 * (x 0).val = (k 0).val; rw [e0, hk0]; omega
  | ⟨1, _⟩ => show win0_22.index t (1 : Fin 2) * 32 + 1 * (x 1).val = (k 1).val; rw [e1, hk1]; omega
/-- Window 23's block at point `t`, read off any array, is rows 1024 t … 1024 t + 1023 of it. -/
theorem read_blk23 (A : S131072x32.Idx → Elt Ideal .f32) (t : Fin cfg0.N) (x : S1024x32.Idx) (k : S131072x32.Idx)
    (hk0 : (k 0).val = 1024 * t.val + (x 0).val) (hk1 : (k 1).val = (x 1).val) :
    ((cfg0.win 23).blk t).view.read (Elt Ideal) A x = A k := by
  obtain ⟨e0, e1⟩ := idx23 t
  rw [View.read_apply]
  show A _ = A _
  refine congrArg A (funext fun a => Fin.ext ?_)
  match a with
  | ⟨0, _⟩ => show win0_23.index t (0 : Fin 2) * 1024 + 1 * (x 0).val = (k 0).val; rw [e0, hk0]; omega
  | ⟨1, _⟩ => show win0_23.index t (1 : Fin 2) * 32 + 1 * (x 1).val = (k 1).val; rw [e1, hk1]; omega

/-- The first weight matrix's window reads the whole of any [128,64] array at every point. -/
theorem read_blk24 (A : S128x64.Idx → Elt Ideal .f32) (t : Fin cfg0.N) :
    ((cfg0.win 24).blk t).view.read (Elt Ideal) A = A := by
  obtain ⟨e0, e1⟩ := idx24 t
  funext x
  rw [View.read_apply]
  show A _ = A x
  refine congrArg A (funext fun a => Fin.ext ?_)
  match a with
  | ⟨0, _⟩ => show win0_24.index t (0 : Fin 2) * 128 + 1 * (x 0).val = (x 0).val; rw [e0]; omega
  | ⟨1, _⟩ => show win0_24.index t (1 : Fin 2) * 64 + 1 * (x 1).val = (x 1).val; rw [e1]; omega

/-- The second weight matrix's window reads the whole of any [64,16] array at every point. -/
theorem read_blk25 (A : S64x16.Idx → Elt Ideal .f32) (t : Fin cfg0.N) :
    ((cfg0.win 25).blk t).view.read (Elt Ideal) A = A := by
  obtain ⟨e0, e1⟩ := idx25 t
  funext x
  rw [View.read_apply]
  show A _ = A x
  refine congrArg A (funext fun a => Fin.ext ?_)
  match a with
  | ⟨0, _⟩ => show win0_25.index t (0 : Fin 2) * 64 + 1 * (x 0).val = (x 0).val; rw [e0]; omega
  | ⟨1, _⟩ => show win0_25.index t (1 : Fin 2) * 16 + 1 * (x 1).val = (x 1).val; rw [e1]; omega

/-! ## The output's blocks tile the result -/

/-- An index of the result is in point `t`'s block iff each coordinate is in the block's range on its axis. -/
theorem mem_blk26 (t : Fin cfg0.N) (i : S131072x16.Idx) :
    i ∈ ((cfg0.win 26).blk t).view.set ↔ ∀ a : Fin 2, win0_26.index t a * S1024x16.size a ≤ (i a).val ∧ (i a).val < win0_26.index t a * S1024x16.size a + S1024x16.size a := by
  show i ∈ ((View.whole main_v3105).slice (win0_26.rect t)).set ↔ _
  rw [View.set_slice_whole, Rect.mem_set_unit]
  exact Iff.rfl

/-- Every row of the result is some point's: row `r` lies in block `r / 1024`. -/
theorem cover (i : S131072x16.Idx) :
    ∃ t : Fin cfg0.N, (cfg0.win 26).flush t = true ∧ i ∈ ((cfg0.win 26).blk t).view.set := by
  have hN : cfg0.N = 128 := N_eq
  have h0 : (i 0).val < 131072 := (i 0).isLt
  have h1 : (i 1).val < 16 := (i 1).isLt
  obtain ⟨t, ht⟩ : ∃ t : Fin cfg0.N, t.val = (i 0).val / 1024 := ⟨⟨(i 0).val / 1024, by rw [hN]; omega⟩, rfl⟩
  obtain ⟨e0, e1⟩ := idx26 t
  refine ⟨t, flush0_26 t, ?_⟩
  rw [mem_blk26]
  intro a
  match a with
  | ⟨0, _⟩ => show win0_26.index t (0 : Fin 2) * 1024 ≤ (i 0).val ∧ (i 0).val < win0_26.index t (0 : Fin 2) * 1024 + 1024; rw [e0, ht]; omega
  | ⟨1, _⟩ => show win0_26.index t (1 : Fin 2) * 16 ≤ (i 1).val ∧ (i 1).val < win0_26.index t (1 : Fin 2) * 16 + 16; rw [e1]; omega

end Cert.KernelIdeal.KValue

end
-- ==== Proof.KernelValue.lean ====
/-
  The kernel's result array as the specification.

  The region runs 128 grid points; point `t` sees rows 1024 t … 1024 t + 1023 of each of the 24 interpolated arrays
  (`blk0_apply` … `blk23_apply`), both weight matrices whole (`blk24_eq`, `blk25_eq`), and writes back rows
  1024 t … 1024 t + 1023 of the result. What it writes back is the body's stored block over those blocks
  (`flushed26`), which entry by entry is the specification's row formula over the arrays' rows (`entry_eq`), so it
  is the block of `mlp` of the four feature arrays and the two weight matrices (`flushed_eq`). The 128 blocks tile
  the result's rows (`cover`), so the whole array ends as that `mlp` (`final`), and the run leaves it there with
  every argument unchanged (`run`).
-/
import proofs.«133805_j10187662426200_2_alg».proof.Proof.FrameKernelIdeal
import proofs.«133805_j10187662426200_2_alg».proof.Proof.KernelBlocks
import Idealize.ShloMosaic.Lib.Pipeline.Value
import Idealize.ShloMosaic.Lib.Tactic

set_option maxRecDepth 16384

noncomputable section

open scoped BigOperators

namespace Cert.KernelIdeal.KValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open Cert.KPlanes (SN32 SN16 SW1 SW2 prod6 w1row outRaw mlp)

variable (m : (ℓ : Loc nD τ sig) → Buf (Elt Ideal) ℓ) (ρ : Dev nD → PrngReg)

/-! ## The windows' blocks as rows of the arrays -/

/-- The region-entry contents under two names of one buffer are one function. -/
theorem V_congr (c : Dev nD) {b b' : Ref sig .tc} (h : b = b') : HEq (V m c b) (V m c b') := by
  subst h; exact HEq.rfl

/-- Window 0 stages the interpolated array `main_v137`. -/
theorem V_arr0 (c : Dev nD) :
    (V m c (Pipeline.arrRef spec0 0) : S131072x32.Idx → Elt Ideal .f32) = V m c main_v137 :=
  eq_of_heq (V_congr m c (b := Pipeline.arrRef spec0 0) (b' := main_v137) rfl)
/-- Window 1 stages the interpolated array `main_v266`. -/
theorem V_arr1 (c : Dev nD) :
    (V m c (Pipeline.arrRef spec0 1) : S131072x32.Idx → Elt Ideal .f32) = V m c main_v266 :=
  eq_of_heq (V_congr m c (b := Pipeline.arrRef spec0 1) (b' := main_v266) rfl)
/-- Window 2 stages the interpolated array `main_v395`. -/
theorem V_arr2 (c : Dev nD) :
    (V m c (Pipeline.arrRef spec0 2) : S131072x32.Idx → Elt Ideal .f32) = V m c main_v395 :=
  eq_of_heq (V_congr m c (b := Pipeline.arrRef spec0 2) (b' := main_v395) rfl)
/-- Window 3 stages the interpolated array `main_v524`. -/
theorem V_arr3 (c : Dev nD) :
    (V m c (Pipeline.arrRef spec0 3) : S131072x32.Idx → Elt Ideal .f32) = V m c main_v524 :=
  eq_of_heq (V_congr m c (b := Pipeline.arrRef spec0 3) (b' := main_v524) rfl)
/-- Window 4 stages the interpolated array `main_v653`. -/
theorem V_arr4 (c : Dev nD) :
    (V m c (Pipeline.arrRef spec0 4) : S131072x32.Idx → Elt Ideal .f32) = V m c main_v653 :=
  eq_of_heq (V_congr m c (b := Pipeline.arrRef spec0 4) (b' := main_v653) rfl)
/-- Window 5 stages the interpolated array `main_v782`. -/
theorem V_arr5 (c : Dev nD) :
    (V m c (Pipeline.arrRef spec0 5) : S131072x32.Idx → Elt Ideal .f32) = V m c main_v782 :=
  eq_of_heq (V_congr m c (b := Pipeline.arrRef spec0 5) (b' := main_v782) rfl)
/-- Window 6 stages the interpolated array `main_v911`. -/
theorem V_arr6 (c : Dev nD) :
    (V m c (Pipeline.arrRef spec0 6) : S131072x32.Idx → Elt Ideal .f32) = V m c main_v911 :=
  eq_of_heq (V_congr m c (b := Pipeline.arrRef spec0 6) (b' := main_v911) rfl)
/-- Window 7 stages the interpolated array `main_v1040`. -/
theorem V_arr7 (c : Dev nD) :
    (V m c (Pipeline.arrRef spec0 7) : S131072x32.Idx → Elt Ideal .f32) = V m c main_v1040 :=
  eq_of_heq (V_congr m c (b := Pipeline.arrRef spec0 7) (b' := main_v1040) rfl)
/-- Window 8 stages the interpolated array `main_v1169`. -/
theorem V_arr8 (c : Dev nD) :
    (V m c (Pipeline.arrRef spec0 8) : S131072x32.Idx → Elt Ideal .f32) = V m c main_v1169 :=
  eq_of_heq (V_congr m c (b := Pipeline.arrRef spec0 8) (b' := main_v1169) rfl)
/-- Window 9 stages the interpolated array `main_v1298`. -/
theorem V_arr9 (c : Dev nD) :
    (V m c (Pipeline.arrRef spec0 9) : S131072x32.Idx → Elt Ideal .f32) = V m c main_v1298 :=
  eq_of_heq (V_congr m c (b := Pipeline.arrRef spec0 9) (b' := main_v1298) rfl)
/-- Window 10 stages the interpolated array `main_v1427`. -/
theorem V_arr10 (c : Dev nD) :
    (V m c (Pipeline.arrRef spec0 10) : S131072x32.Idx → Elt Ideal .f32) = V m c main_v1427 :=
  eq_of_heq (V_congr m c (b := Pipeline.arrRef spec0 10) (b' := main_v1427) rfl)
/-- Window 11 stages the interpolated array `main_v1556`. -/
theorem V_arr11 (c : Dev nD) :
    (V m c (Pipeline.arrRef spec0 11) : S131072x32.Idx → Elt Ideal .f32) = V m c main_v1556 :=
  eq_of_heq (V_congr m c (b := Pipeline.arrRef spec0 11) (b' := main_v1556) rfl)
/-- Window 12 stages the interpolated array `main_v1685`. -/
theorem V_arr12 (c : Dev nD) :
    (V m c (Pipeline.arrRef spec0 12) : S131072x32.Idx → Elt Ideal .f32) = V m c main_v1685 :=
  eq_of_heq (V_congr m c (b := Pipeline.arrRef spec0 12) (b' := main_v1685) rfl)
/-- Window 13 stages the interpolated array `main_v1814`. -/
theorem V_arr13 (c : Dev nD) :
    (V m c (Pipeline.arrRef spec0 13) : S131072x32.Idx → Elt Ideal .f32) = V m c main_v1814 :=
  eq_of_heq (V_congr m c (b := Pipeline.arrRef spec0 13) (b' := main_v1814) rfl)
/-- Window 14 stages the interpolated array `main_v1943`. -/
theorem V_arr14 (c : Dev nD) :
    (V m c (Pipeline.arrRef spec0 14) : S131072x32.Idx → Elt Ideal .f32) = V m c main_v1943 :=
  eq_of_heq (V_congr m c (b := Pipeline.arrRef spec0 14) (b' := main_v1943) rfl)
/-- Window 15 stages the interpolated array `main_v2072`. -/
theorem V_arr15 (c : Dev nD) :
    (V m c (Pipeline.arrRef spec0 15) : S131072x32.Idx → Elt Ideal .f32) = V m c main_v2072 :=
  eq_of_heq (V_congr m c (b := Pipeline.arrRef spec0 15) (b' := main_v2072) rfl)
/-- Window 16 stages the interpolated array `main_v2201`. -/
theorem V_arr16 (c : Dev nD) :
    (V m c (Pipeline.arrRef spec0 16) : S131072x32.Idx → Elt Ideal .f32) = V m c main_v2201 :=
  eq_of_heq (V_congr m c (b := Pipeline.arrRef spec0 16) (b' := main_v2201) rfl)
/-- Window 17 stages the interpolated array `main_v2330`. -/
theorem V_arr17 (c : Dev nD) :
    (V m c (Pipeline.arrRef spec0 17) : S131072x32.Idx → Elt Ideal .f32) = V m c main_v2330 :=
  eq_of_heq (V_congr m c (b := Pipeline.arrRef spec0 17) (b' := main_v2330) rfl)
/-- Window 18 stages the interpolated array `main_v2459`. -/
theorem V_arr18 (c : Dev nD) :
    (V m c (Pipeline.arrRef spec0 18) : S131072x32.Idx → Elt Ideal .f32) = V m c main_v2459 :=
  eq_of_heq (V_congr m c (b := Pipeline.arrRef spec0 18) (b' := main_v2459) rfl)
/-- Window 19 stages the interpolated array `main_v2588`. -/
theorem V_arr19 (c : Dev nD) :
    (V m c (Pipeline.arrRef spec0 19) : S131072x32.Idx → Elt Ideal .f32) = V m c main_v2588 :=
  eq_of_heq (V_congr m c (b := Pipeline.arrRef spec0 19) (b' := main_v2588) rfl)
/-- Window 20 stages the interpolated array `main_v2717`. -/
theorem V_arr20 (c : Dev nD) :
    (V m c (Pipeline.arrRef spec0 20) : S131072x32.Idx → Elt Ideal .f32) = V m c main_v2717 :=
  eq_of_heq (V_congr m c (b := Pipeline.arrRef spec0 20) (b' := main_v2717) rfl)
/-- Window 21 stages the interpolated array `main_v2846`. -/
theorem V_arr21 (c : Dev nD) :
    (V m c (Pipeline.arrRef spec0 21) : S131072x32.Idx → Elt Ideal .f32) = V m c main_v2846 :=
  eq_of_heq (V_congr m c (b := Pipeline.arrRef spec0 21) (b' := main_v2846) rfl)
/-- Window 22 stages the interpolated array `main_v2975`. -/
theorem V_arr22 (c : Dev nD) :
    (V m c (Pipeline.arrRef spec0 22) : S131072x32.Idx → Elt Ideal .f32) = V m c main_v2975 :=
  eq_of_heq (V_congr m c (b := Pipeline.arrRef spec0 22) (b' := main_v2975) rfl)
/-- Window 23 stages the interpolated array `main_v3104`. -/
theorem V_arr23 (c : Dev nD) :
    (V m c (Pipeline.arrRef spec0 23) : S131072x32.Idx → Elt Ideal .f32) = V m c main_v3104 :=
  eq_of_heq (V_congr m c (b := Pipeline.arrRef spec0 23) (b' := main_v3104) rfl)
/-- Window 24 stages the first weight matrix, window 25 the second. -/
theorem V_arr24 (c : Dev nD) :
    (V m c (Pipeline.arrRef spec0 24) : S128x64.Idx → Elt Ideal .f32) = V m c main_arg26 :=
  eq_of_heq (V_congr m c (b := Pipeline.arrRef spec0 24) (b' := main_arg26) rfl)
theorem V_arr25 (c : Dev nD) :
    (V m c (Pipeline.arrRef spec0 25) : S64x16.Idx → Elt Ideal .f32) = V m c main_arg27 :=
  eq_of_heq (V_congr m c (b := Pipeline.arrRef spec0 25) (b' := main_arg27) rfl)

/-- Window 0's block at point `t` is rows 1024 t … 1024 t + 1023 of its array. -/
theorem blk0_apply (c : Dev nD) (t : Fin cfg0.N) (x : S1024x32.Idx) (k : S131072x32.Idx)
    (hk0 : (k 0).val = 1024 * t.val + (x 0).val) (hk1 : (k 1).val = (x 1).val) :
    (iblk m c 0 t : Vec Ideal S1024x32 .f32) x = (V m c main_v137 : S131072x32.Idx → Elt Ideal .f32) k := by
  show ((cfg0.win 0).blk t).view.read (Elt Ideal) (V m c (Pipeline.arrRef spec0 0)) x = _
  exact (read_blk0 (V m c (Pipeline.arrRef spec0 0)) t x k hk0 hk1).trans (congrFun (V_arr0 m c) k)
/-- Window 1's block at point `t` is rows 1024 t … 1024 t + 1023 of its array. -/
theorem blk1_apply (c : Dev nD) (t : Fin cfg0.N) (x : S1024x32.Idx) (k : S131072x32.Idx)
    (hk0 : (k 0).val = 1024 * t.val + (x 0).val) (hk1 : (k 1).val = (x 1).val) :
    (iblk m c 1 t : Vec Ideal S1024x32 .f32) x = (V m c main_v266 : S131072x32.Idx → Elt Ideal .f32) k := by
  show ((cfg0.win 1).blk t).view.read (Elt Ideal) (V m c (Pipeline.arrRef spec0 1)) x = _
  exact (read_blk1 (V m c (Pipeline.arrRef spec0 1)) t x k hk0 hk1).trans (congrFun (V_arr1 m c) k)
/-- Window 2's block at point `t` is rows 1024 t … 1024 t + 1023 of its array. -/
theorem blk2_apply (c : Dev nD) (t : Fin cfg0.N) (x : S1024x32.Idx) (k : S131072x32.Idx)
    (hk0 : (k 0).val = 1024 * t.val + (x 0).val) (hk1 : (k 1).val = (x 1).val) :
    (iblk m c 2 t : Vec Ideal S1024x32 .f32) x = (V m c main_v395 : S131072x32.Idx → Elt Ideal .f32) k := by
  show ((cfg0.win 2).blk t).view.read (Elt Ideal) (V m c (Pipeline.arrRef spec0 2)) x = _
  exact (read_blk2 (V m c (Pipeline.arrRef spec0 2)) t x k hk0 hk1).trans (congrFun (V_arr2 m c) k)
/-- Window 3's block at point `t` is rows 1024 t … 1024 t + 1023 of its array. -/
theorem blk3_apply (c : Dev nD) (t : Fin cfg0.N) (x : S1024x32.Idx) (k : S131072x32.Idx)
    (hk0 : (k 0).val = 1024 * t.val + (x 0).val) (hk1 : (k 1).val = (x 1).val) :
    (iblk m c 3 t : Vec Ideal S1024x32 .f32) x = (V m c main_v524 : S131072x32.Idx → Elt Ideal .f32) k := by
  show ((cfg0.win 3).blk t).view.read (Elt Ideal) (V m c (Pipeline.arrRef spec0 3)) x = _
  exact (read_blk3 (V m c (Pipeline.arrRef spec0 3)) t x k hk0 hk1).trans (congrFun (V_arr3 m c) k)
/-- Window 4's block at point `t` is rows 1024 t … 1024 t + 1023 of its array. -/
theorem blk4_apply (c : Dev nD) (t : Fin cfg0.N) (x : S1024x32.Idx) (k : S131072x32.Idx)
    (hk0 : (k 0).val = 1024 * t.val + (x 0).val) (hk1 : (k 1).val = (x 1).val) :
    (iblk m c 4 t : Vec Ideal S1024x32 .f32) x = (V m c main_v653 : S131072x32.Idx → Elt Ideal .f32) k := by
  show ((cfg0.win 4).blk t).view.read (Elt Ideal) (V m c (Pipeline.arrRef spec0 4)) x = _
  exact (read_blk4 (V m c (Pipeline.arrRef spec0 4)) t x k hk0 hk1).trans (congrFun (V_arr4 m c) k)
/-- Window 5's block at point `t` is rows 1024 t … 1024 t + 1023 of its array. -/
theorem blk5_apply (c : Dev nD) (t : Fin cfg0.N) (x : S1024x32.Idx) (k : S131072x32.Idx)
    (hk0 : (k 0).val = 1024 * t.val + (x 0).val) (hk1 : (k 1).val = (x 1).val) :
    (iblk m c 5 t : Vec Ideal S1024x32 .f32) x = (V m c main_v782 : S131072x32.Idx → Elt Ideal .f32) k := by
  show ((cfg0.win 5).blk t).view.read (Elt Ideal) (V m c (Pipeline.arrRef spec0 5)) x = _
  exact (read_blk5 (V m c (Pipeline.arrRef spec0 5)) t x k hk0 hk1).trans (congrFun (V_arr5 m c) k)
/-- Window 6's block at point `t` is rows 1024 t … 1024 t + 1023 of its array. -/
theorem blk6_apply (c : Dev nD) (t : Fin cfg0.N) (x : S1024x32.Idx) (k : S131072x32.Idx)
    (hk0 : (k 0).val = 1024 * t.val + (x 0).val) (hk1 : (k 1).val = (x 1).val) :
    (iblk m c 6 t : Vec Ideal S1024x32 .f32) x = (V m c main_v911 : S131072x32.Idx → Elt Ideal .f32) k := by
  show ((cfg0.win 6).blk t).view.read (Elt Ideal) (V m c (Pipeline.arrRef spec0 6)) x = _
  exact (read_blk6 (V m c (Pipeline.arrRef spec0 6)) t x k hk0 hk1).trans (congrFun (V_arr6 m c) k)
/-- Window 7's block at point `t` is rows 1024 t … 1024 t + 1023 of its array. -/
theorem blk7_apply (c : Dev nD) (t : Fin cfg0.N) (x : S1024x32.Idx) (k : S131072x32.Idx)
    (hk0 : (k 0).val = 1024 * t.val + (x 0).val) (hk1 : (k 1).val = (x 1).val) :
    (iblk m c 7 t : Vec Ideal S1024x32 .f32) x = (V m c main_v1040 : S131072x32.Idx → Elt Ideal .f32) k := by
  show ((cfg0.win 7).blk t).view.read (Elt Ideal) (V m c (Pipeline.arrRef spec0 7)) x = _
  exact (read_blk7 (V m c (Pipeline.arrRef spec0 7)) t x k hk0 hk1).trans (congrFun (V_arr7 m c) k)
/-- Window 8's block at point `t` is rows 1024 t … 1024 t + 1023 of its array. -/
theorem blk8_apply (c : Dev nD) (t : Fin cfg0.N) (x : S1024x32.Idx) (k : S131072x32.Idx)
    (hk0 : (k 0).val = 1024 * t.val + (x 0).val) (hk1 : (k 1).val = (x 1).val) :
    (iblk m c 8 t : Vec Ideal S1024x32 .f32) x = (V m c main_v1169 : S131072x32.Idx → Elt Ideal .f32) k := by
  show ((cfg0.win 8).blk t).view.read (Elt Ideal) (V m c (Pipeline.arrRef spec0 8)) x = _
  exact (read_blk8 (V m c (Pipeline.arrRef spec0 8)) t x k hk0 hk1).trans (congrFun (V_arr8 m c) k)
/-- Window 9's block at point `t` is rows 1024 t … 1024 t + 1023 of its array. -/
theorem blk9_apply (c : Dev nD) (t : Fin cfg0.N) (x : S1024x32.Idx) (k : S131072x32.Idx)
    (hk0 : (k 0).val = 1024 * t.val + (x 0).val) (hk1 : (k 1).val = (x 1).val) :
    (iblk m c 9 t : Vec Ideal S1024x32 .f32) x = (V m c main_v1298 : S131072x32.Idx → Elt Ideal .f32) k := by
  show ((cfg0.win 9).blk t).view.read (Elt Ideal) (V m c (Pipeline.arrRef spec0 9)) x = _
  exact (read_blk9 (V m c (Pipeline.arrRef spec0 9)) t x k hk0 hk1).trans (congrFun (V_arr9 m c) k)
/-- Window 10's block at point `t` is rows 1024 t … 1024 t + 1023 of its array. -/
theorem blk10_apply (c : Dev nD) (t : Fin cfg0.N) (x : S1024x32.Idx) (k : S131072x32.Idx)
    (hk0 : (k 0).val = 1024 * t.val + (x 0).val) (hk1 : (k 1).val = (x 1).val) :
    (iblk m c 10 t : Vec Ideal S1024x32 .f32) x = (V m c main_v1427 : S131072x32.Idx → Elt Ideal .f32) k := by
  show ((cfg0.win 10).blk t).view.read (Elt Ideal) (V m c (Pipeline.arrRef spec0 10)) x = _
  exact (read_blk10 (V m c (Pipeline.arrRef spec0 10)) t x k hk0 hk1).trans (congrFun (V_arr10 m c) k)
/-- Window 11's block at point `t` is rows 1024 t … 1024 t + 1023 of its array. -/
theorem blk11_apply (c : Dev nD) (t : Fin cfg0.N) (x : S1024x32.Idx) (k : S131072x32.Idx)
    (hk0 : (k 0).val = 1024 * t.val + (x 0).val) (hk1 : (k 1).val = (x 1).val) :
    (iblk m c 11 t : Vec Ideal S1024x32 .f32) x = (V m c main_v1556 : S131072x32.Idx → Elt Ideal .f32) k := by
  show ((cfg0.win 11).blk t).view.read (Elt Ideal) (V m c (Pipeline.arrRef spec0 11)) x = _
  exact (read_blk11 (V m c (Pipeline.arrRef spec0 11)) t x k hk0 hk1).trans (congrFun (V_arr11 m c) k)
/-- Window 12's block at point `t` is rows 1024 t … 1024 t + 1023 of its array. -/
theorem blk12_apply (c : Dev nD) (t : Fin cfg0.N) (x : S1024x32.Idx) (k : S131072x32.Idx)
    (hk0 : (k 0).val = 1024 * t.val + (x 0).val) (hk1 : (k 1).val = (x 1).val) :
    (iblk m c 12 t : Vec Ideal S1024x32 .f32) x = (V m c main_v1685 : S131072x32.Idx → Elt Ideal .f32) k := by
  show ((cfg0.win 12).blk t).view.read (Elt Ideal) (V m c (Pipeline.arrRef spec0 12)) x = _
  exact (read_blk12 (V m c (Pipeline.arrRef spec0 12)) t x k hk0 hk1).trans (congrFun (V_arr12 m c) k)
/-- Window 13's block at point `t` is rows 1024 t … 1024 t + 1023 of its array. -/
theorem blk13_apply (c : Dev nD) (t : Fin cfg0.N) (x : S1024x32.Idx) (k : S131072x32.Idx)
    (hk0 : (k 0).val = 1024 * t.val + (x 0).val) (hk1 : (k 1).val = (x 1).val) :
    (iblk m c 13 t : Vec Ideal S1024x32 .f32) x = (V m c main_v1814 : S131072x32.Idx → Elt Ideal .f32) k := by
  show ((cfg0.win 13).blk t).view.read (Elt Ideal) (V m c (Pipeline.arrRef spec0 13)) x = _
  exact (read_blk13 (V m c (Pipeline.arrRef spec0 13)) t x k hk0 hk1).trans (congrFun (V_arr13 m c) k)
/-- Window 14's block at point `t` is rows 1024 t … 1024 t + 1023 of its array. -/
theorem blk14_apply (c : Dev nD) (t : Fin cfg0.N) (x : S1024x32.Idx) (k : S131072x32.Idx)
    (hk0 : (k 0).val = 1024 * t.val + (x 0).val) (hk1 : (k 1).val = (x 1).val) :
    (iblk m c 14 t : Vec Ideal S1024x32 .f32) x = (V m c main_v1943 : S131072x32.Idx → Elt Ideal .f32) k := by
  show ((cfg0.win 14).blk t).view.read (Elt Ideal) (V m c (Pipeline.arrRef spec0 14)) x = _
  exact (read_blk14 (V m c (Pipeline.arrRef spec0 14)) t x k hk0 hk1).trans (congrFun (V_arr14 m c) k)
/-- Window 15's block at point `t` is rows 1024 t … 1024 t + 1023 of its array. -/
theorem blk15_apply (c : Dev nD) (t : Fin cfg0.N) (x : S1024x32.Idx) (k : S131072x32.Idx)
    (hk0 : (k 0).val = 1024 * t.val + (x 0).val) (hk1 : (k 1).val = (x 1).val) :
    (iblk m c 15 t : Vec Ideal S1024x32 .f32) x = (V m c main_v2072 : S131072x32.Idx → Elt Ideal .f32) k := by
  show ((cfg0.win 15).blk t).view.read (Elt Ideal) (V m c (Pipeline.arrRef spec0 15)) x = _
  exact (read_blk15 (V m c (Pipeline.arrRef spec0 15)) t x k hk0 hk1).trans (congrFun (V_arr15 m c) k)
/-- Window 16's block at point `t` is rows 1024 t … 1024 t + 1023 of its array. -/
theorem blk16_apply (c : Dev nD) (t : Fin cfg0.N) (x : S1024x32.Idx) (k : S131072x32.Idx)
    (hk0 : (k 0).val = 1024 * t.val + (x 0).val) (hk1 : (k 1).val = (x 1).val) :
    (iblk m c 16 t : Vec Ideal S1024x32 .f32) x = (V m c main_v2201 : S131072x32.Idx → Elt Ideal .f32) k := by
  show ((cfg0.win 16).blk t).view.read (Elt Ideal) (V m c (Pipeline.arrRef spec0 16)) x = _
  exact (read_blk16 (V m c (Pipeline.arrRef spec0 16)) t x k hk0 hk1).trans (congrFun (V_arr16 m c) k)
/-- Window 17's block at point `t` is rows 1024 t … 1024 t + 1023 of its array. -/
theorem blk17_apply (c : Dev nD) (t : Fin cfg0.N) (x : S1024x32.Idx) (k : S131072x32.Idx)
    (hk0 : (k 0).val = 1024 * t.val + (x 0).val) (hk1 : (k 1).val = (x 1).val) :
    (iblk m c 17 t : Vec Ideal S1024x32 .f32) x = (V m c main_v2330 : S131072x32.Idx → Elt Ideal .f32) k := by
  show ((cfg0.win 17).blk t).view.read (Elt Ideal) (V m c (Pipeline.arrRef spec0 17)) x = _
  exact (read_blk17 (V m c (Pipeline.arrRef spec0 17)) t x k hk0 hk1).trans (congrFun (V_arr17 m c) k)
/-- Window 18's block at point `t` is rows 1024 t … 1024 t + 1023 of its array. -/
theorem blk18_apply (c : Dev nD) (t : Fin cfg0.N) (x : S1024x32.Idx) (k : S131072x32.Idx)
    (hk0 : (k 0).val = 1024 * t.val + (x 0).val) (hk1 : (k 1).val = (x 1).val) :
    (iblk m c 18 t : Vec Ideal S1024x32 .f32) x = (V m c main_v2459 : S131072x32.Idx → Elt Ideal .f32) k := by
  show ((cfg0.win 18).blk t).view.read (Elt Ideal) (V m c (Pipeline.arrRef spec0 18)) x = _
  exact (read_blk18 (V m c (Pipeline.arrRef spec0 18)) t x k hk0 hk1).trans (congrFun (V_arr18 m c) k)
/-- Window 19's block at point `t` is rows 1024 t … 1024 t + 1023 of its array. -/
theorem blk19_apply (c : Dev nD) (t : Fin cfg0.N) (x : S1024x32.Idx) (k : S131072x32.Idx)
    (hk0 : (k 0).val = 1024 * t.val + (x 0).val) (hk1 : (k 1).val = (x 1).val) :
    (iblk m c 19 t : Vec Ideal S1024x32 .f32) x = (V m c main_v2588 : S131072x32.Idx → Elt Ideal .f32) k := by
  show ((cfg0.win 19).blk t).view.read (Elt Ideal) (V m c (Pipeline.arrRef spec0 19)) x = _
  exact (read_blk19 (V m c (Pipeline.arrRef spec0 19)) t x k hk0 hk1).trans (congrFun (V_arr19 m c) k)
/-- Window 20's block at point `t` is rows 1024 t … 1024 t + 1023 of its array. -/
theorem blk20_apply (c : Dev nD) (t : Fin cfg0.N) (x : S1024x32.Idx) (k : S131072x32.Idx)
    (hk0 : (k 0).val = 1024 * t.val + (x 0).val) (hk1 : (k 1).val = (x 1).val) :
    (iblk m c 20 t : Vec Ideal S1024x32 .f32) x = (V m c main_v2717 : S131072x32.Idx → Elt Ideal .f32) k := by
  show ((cfg0.win 20).blk t).view.read (Elt Ideal) (V m c (Pipeline.arrRef spec0 20)) x = _
  exact (read_blk20 (V m c (Pipeline.arrRef spec0 20)) t x k hk0 hk1).trans (congrFun (V_arr20 m c) k)
/-- Window 21's block at point `t` is rows 1024 t … 1024 t + 1023 of its array. -/
theorem blk21_apply (c : Dev nD) (t : Fin cfg0.N) (x : S1024x32.Idx) (k : S131072x32.Idx)
    (hk0 : (k 0).val = 1024 * t.val + (x 0).val) (hk1 : (k 1).val = (x 1).val) :
    (iblk m c 21 t : Vec Ideal S1024x32 .f32) x = (V m c main_v2846 : S131072x32.Idx → Elt Ideal .f32) k := by
  show ((cfg0.win 21).blk t).view.read (Elt Ideal) (V m c (Pipeline.arrRef spec0 21)) x = _
  exact (read_blk21 (V m c (Pipeline.arrRef spec0 21)) t x k hk0 hk1).trans (congrFun (V_arr21 m c) k)
/-- Window 22's block at point `t` is rows 1024 t … 1024 t + 1023 of its array. -/
theorem blk22_apply (c : Dev nD) (t : Fin cfg0.N) (x : S1024x32.Idx) (k : S131072x32.Idx)
    (hk0 : (k 0).val = 1024 * t.val + (x 0).val) (hk1 : (k 1).val = (x 1).val) :
    (iblk m c 22 t : Vec Ideal S1024x32 .f32) x = (V m c main_v2975 : S131072x32.Idx → Elt Ideal .f32) k := by
  show ((cfg0.win 22).blk t).view.read (Elt Ideal) (V m c (Pipeline.arrRef spec0 22)) x = _
  exact (read_blk22 (V m c (Pipeline.arrRef spec0 22)) t x k hk0 hk1).trans (congrFun (V_arr22 m c) k)
/-- Window 23's block at point `t` is rows 1024 t … 1024 t + 1023 of its array. -/
theorem blk23_apply (c : Dev nD) (t : Fin cfg0.N) (x : S1024x32.Idx) (k : S131072x32.Idx)
    (hk0 : (k 0).val = 1024 * t.val + (x 0).val) (hk1 : (k 1).val = (x 1).val) :
    (iblk m c 23 t : Vec Ideal S1024x32 .f32) x = (V m c main_v3104 : S131072x32.Idx → Elt Ideal .f32) k := by
  show ((cfg0.win 23).blk t).view.read (Elt Ideal) (V m c (Pipeline.arrRef spec0 23)) x = _
  exact (read_blk23 (V m c (Pipeline.arrRef spec0 23)) t x k hk0 hk1).trans (congrFun (V_arr23 m c) k)

/-- The first weight matrix's window holds the whole matrix at every point. -/
theorem blk24_eq (c : Dev nD) (t : Fin cfg0.N) :
    (iblk m c 24 t : Vec Ideal S128x64 .f32) = m ((c : Thread nD τ).loc main_arg26) := by
  show ((cfg0.win 24).blk t).view.read (Elt Ideal) (V m c (Pipeline.arrRef spec0 24)) = _
  exact (read_blk24 (V m c (Pipeline.arrRef spec0 24)) t).trans ((V_arr24 m c).trans (V_main_arg26 m c))

/-- The second weight matrix's window likewise. -/
theorem blk25_eq (c : Dev nD) (t : Fin cfg0.N) :
    (iblk m c 25 t : Vec Ideal S64x16 .f32) = m ((c : Thread nD τ).loc main_arg27) := by
  show ((cfg0.win 25).blk t).view.read (Elt Ideal) (V m c (Pipeline.arrRef spec0 25)) = _
  exact (read_blk25 (V m c (Pipeline.arrRef spec0 25)) t).trans ((V_arr25 m c).trans (V_main_arg27 m c))

/-! ## The result -/

/-- Scale 0's feature array as the region finds it: the six-fold product of its interpolated arrays. -/
def feat0 (c : Dev nD) : FVec Ideal SN32 .f32 := prod6 (V m c main_v137) (V m c main_v266) (V m c main_v395) (V m c main_v524) (V m c main_v653) (V m c main_v782)
/-- Scale 1's. -/
def feat1 (c : Dev nD) : FVec Ideal SN32 .f32 := prod6 (V m c main_v911) (V m c main_v1040) (V m c main_v1169) (V m c main_v1298) (V m c main_v1427) (V m c main_v1556)
/-- Scale 2's. -/
def feat2 (c : Dev nD) : FVec Ideal SN32 .f32 := prod6 (V m c main_v1685) (V m c main_v1814) (V m c main_v1943) (V m c main_v2072) (V m c main_v2201) (V m c main_v2330)
/-- Scale 3's. -/
def feat3 (c : Dev nD) : FVec Ideal SN32 .f32 := prod6 (V m c main_v2459) (V m c main_v2588) (V m c main_v2717) (V m c main_v2846) (V m c main_v2975) (V m c main_v3104)

/-- Scale `s`'s feature array as the region finds it. -/
def feat (c : Dev nD) : Fin 4 → FVec Ideal SN32 .f32
  | 0 => feat0 m c
  | 1 => feat1 m c
  | 2 => feat2 m c
  | 3 => feat3 m c

/-- What the result array ends holding: the specification of the four feature arrays and the two weight matrices. -/
abbrev result (c : Dev nD) : FVec Ideal SN16 .f32 :=
  mlp (feat m c 0) (feat m c 1) (feat m c 2) (feat m c 3) (m ((c : Thread nD τ).loc main_arg26)) (m ((c : Thread nD τ).loc main_arg27))

/-- What point `t` writes back to the result: the body's stored block over the input windows' blocks at `t`. -/
theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) := by
  show (cfg0.win 26).cut (grid0.coords t) ((dats m 0 c).after 26 t) = _
  rw [after0_26]

/-- WHAT POINT `t` WRITES BACK is rows 1024 t … 1024 t + 1023 of `result`. -/
theorem flushed_eq (c : Dev nD) (t : Fin cfg0.N) :
    (dats m 0 c).flushed 26 t = ((cfg0.win 26).blk t).view.read (Elt Ideal) (result m c) := by
  rw [flushed26]
  unfold out0_26
  rw [View.canon_unit_zero hz]
  simp only [View.ld_unit_zero (S := S1024x32) hz, View.ld_unit_zero (S := S64x16) hz]
  obtain ⟨e0, e1⟩ := idx26 t
  have hN : cfg0.N = 128 := N_eq
  have ht : t.val < 128 := hN ▸ t.isLt
  refine funext fun (y : S1024x16.Idx) => ?_
  obtain ⟨p, j, rfl⟩ : ∃ (p : Fin 1024) (j : Fin 16), y = ix2 p j := ⟨y 0, y 1, eq_ix2 y⟩
  have hemb : ((cfg0.win 26).blk t).view.emb (ix2 p j)
      = (ix2 (⟨1024 * t.val + p.val, by have := p.isLt; omega⟩ : Fin 131072) j : S131072x16.Idx) := by
    funext a
    apply Fin.ext
    match a with
    | ⟨0, _⟩ => show win0_26.index t (0 : Fin 2) * 1024 + 1 * p.val = 1024 * t.val + p.val; rw [e0]; omega
    | ⟨1, _⟩ => show win0_26.index t (1 : Fin 2) * 16 + 1 * j.val = j.val; rw [e1]; omega
  show k0_pay1 _ _ _ _ _ _ _ _ (ix2 p j) = result m c (((cfg0.win 26).blk t).view.emb (ix2 p j))
  rw [hemb]
  exact entry_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    (View.ld (iblk m c 24 t) r0_1) (View.ld (iblk m c 24 t) r0_2) (View.ld (iblk m c 24 t) r0_3) (View.ld (iblk m c 24 t) r0_4)
    (iblk m c 25 t)
    (V m c main_v137) (V m c main_v266) (V m c main_v395) (V m c main_v524) (V m c main_v653) (V m c main_v782) (V m c main_v911) (V m c main_v1040) (V m c main_v1169) (V m c main_v1298) (V m c main_v1427) (V m c main_v1556) (V m c main_v1685) (V m c main_v1814) (V m c main_v1943) (V m c main_v2072) (V m c main_v2201) (V m c main_v2330) (V m c main_v2459) (V m c main_v2588) (V m c main_v2717) (V m c main_v2846) (V m c main_v2975) (V m c main_v3104)
    (m ((c : Thread nD τ).loc main_arg26)) (m ((c : Thread nD τ).loc main_arg27)) p j ⟨1024 * t.val + p.val, by have := p.isLt; omega⟩
    (fun k => blk0_apply m c t _ _ rfl rfl)
    (fun k => blk1_apply m c t _ _ rfl rfl)
    (fun k => blk2_apply m c t _ _ rfl rfl)
    (fun k => blk3_apply m c t _ _ rfl rfl)
    (fun k => blk4_apply m c t _ _ rfl rfl)
    (fun k => blk5_apply m c t _ _ rfl rfl)
    (fun k => blk6_apply m c t _ _ rfl rfl)
    (fun k => blk7_apply m c t _ _ rfl rfl)
    (fun k => blk8_apply m c t _ _ rfl rfl)
    (fun k => blk9_apply m c t _ _ rfl rfl)
    (fun k => blk10_apply m c t _ _ rfl rfl)
    (fun k => blk11_apply m c t _ _ rfl rfl)
    (fun k => blk12_apply m c t _ _ rfl rfl)
    (fun k => blk13_apply m c t _ _ rfl rfl)
    (fun k => blk14_apply m c t _ _ rfl rfl)
    (fun k => blk15_apply m c t _ _ rfl rfl)
    (fun k => blk16_apply m c t _ _ rfl rfl)
    (fun k => blk17_apply m c t _ _ rfl rfl)
    (fun k => blk18_apply m c t _ _ rfl rfl)
    (fun k => blk19_apply m c t _ _ rfl rfl)
    (fun k => blk20_apply m c t _ _ rfl rfl)
    (fun k => blk21_apply m c t _ _ rfl rfl)
    (fun k => blk22_apply m c t _ _ rfl rfl)
    (fun k => blk23_apply m c t _ _ rfl rfl)
    (fun k q => (ld_w1_0 _ (iblk m c 24 t) k q).trans (congrFun (blk24_eq m c t) _))
    (fun k q => (ld_w1_1 _ (iblk m c 24 t) k q).trans (congrFun (blk24_eq m c t) _))
    (fun k q => (ld_w1_2 _ (iblk m c 24 t) k q).trans (congrFun (blk24_eq m c t) _))
    (fun k q => (ld_w1_3 _ (iblk m c 24 t) k q).trans (congrFun (blk24_eq m c t) _))
    (fun q j => congrFun (blk25_eq m c t) _)

/-- THE RESULT ARRAY after the run is the specification. -/
theorem final (c : Dev nD) :
    (dats m 0 c).arrAt 26 cfg0.N = mlp (feat m c 0) (feat m c 1) (feat m c 2) (feat m c 3)
      (m ((c : Thread nD τ).loc main_arg26)) (m ((c : Thread nD τ).loc main_arg27)) :=
  (dats m 0 c).arrAt_eq_of_cover 26 (result m c) (fun t _ => flushed_eq m c t) cover

/-! ## The run -/

/-- After the frame run, the result array is the proof data's final array. -/
theorem post26 (r : PUnit × MemSt nD τ sig (Elt Ideal)) (h : Pipeline.FramePost cfgs (dats m) 0 (V m) r) (c : Dev nD) :
    r.2.mem ((c : Thread nD τ).loc main_v3105) = (dats m 0 c).arrAt 26 cfg0.N :=
  (h c).1 26

/-- After the frame run each argument is as launched: no window stages arguments 0 … 25 and the run leaves the region's
    other buffers as they were; the two weight windows stage arguments 26 and 27 and never write them back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
theorem kept_main_arg15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
theorem kept_main_arg17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)
theorem kept_main_arg19 (r : PUnit × MemSt nD τ sig (Elt Ideal)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)
theorem kept_main_arg20 (r : PUnit × MemSt nD τ sig (Elt Ideal)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)
theorem kept_main_arg21 (r : PUnit × MemSt nD τ sig (Elt Ideal)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)
theorem kept_main_arg22 (r : PUnit × MemSt nD τ sig (Elt Ideal)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)
theorem kept_main_arg23 (r : PUnit × MemSt nD τ sig (Elt Ideal)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)
theorem kept_main_arg24 (r : PUnit × MemSt nD τ sig (Elt Ideal)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)
theorem kept_main_arg25 (r : PUnit × MemSt nD τ sig (Elt Ideal)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)
theorem kept_main_arg26 (r : PUnit × MemSt nD τ sig (Elt Ideal)) (h : Pipeline.FramePost cfgs (dats m) 0 (V m) r) (c : Dev nD) :
    r.2.mem ((c : Thread nD τ).loc main_arg26) = m ((c : Thread nD τ).loc main_arg26) :=
  ((h c).1 24).trans (((dats m 0 c).arrAt_in 24 rfl _).trans ((A_eq m c 24).trans ((V_arr24 m c).trans (V_main_arg26 m c))))
theorem kept_main_arg27 (r : PUnit × MemSt nD τ sig (Elt Ideal)) (h : Pipeline.FramePost cfgs (dats m) 0 (V m) r) (c : Dev nD) :
    r.2.mem ((c : Thread nD τ).loc main_arg27) = m ((c : Thread nD τ).loc main_arg27) :=
  ((h c).1 25).trans (((dats m 0 c).arrAt_in 25 rfl _).trans ((A_eq m c 25).trans ((V_arr25 m c).trans (V_main_arg27 m c))))

/-- The run, read: the result array at the specification, the arguments unchanged. -/
theorem run : θ_run defs (onTc (τ := τ) (main (F := Ideal))) ⟨m, fun _ => 0, ρ⟩ fun r => ∀ c : Dev nD,
      r.2.mem ((c : Thread nD τ).loc main_v3105) = mlp (feat m c 0) (feat m c 1) (feat m c 2) (feat m c 3)
        (m ((c : Thread nD τ).loc main_arg26)) (m ((c : Thread nD τ).loc main_arg27))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27) :=
  (θ_run defs _ _).mono (fun r h c => ⟨(post26 m r h c).trans (final m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c⟩)
    (run_main m ρ)

end Cert.KernelIdeal.KValue

end
-- ==== Proof.RefOps0.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 0 of @main: 60 operations, writing buffers 28 … 87. -/
abbrev w0 : List (HloOp τ sig (Elt F)) :=
  [ StableHlo.nullary main_c (fun i => lit0 (S2.rowMajor i)),
    StableHlo.nullary main_c_0 (fun i => lit1 (S2.rowMajor i)),
    StableHlo.nullary main_c_1 (fun i => lit2 (S2.rowMajor i)),
    StableHlo.nullary main_c_2 (fun i => lit3 (S2.rowMajor i)),
    StableHlo.nullary main_c_3 (fun i => lit4 (S2.rowMajor i)),
    StableHlo.nullary main_c_4 (fun i => lit5 (S2.rowMajor i)),
    StableHlo.nullary main_c_5 (fun i => lit6 (S2.rowMajor i)),
    StableHlo.nullary main_c_6 (fun i => lit7 (S2.rowMajor i)),
    StableHlo.nullary main_c_7 (fun i => lit8 (S2.rowMajor i)),
    StableHlo.nullary main_c_8 (fun i => lit9 (S2.rowMajor i)),
    StableHlo.nullary main_c_9 (fun i => lit10 (S2.rowMajor i)),
    StableHlo.nullary main_c_10 (fun i => lit11 (S2.rowMajor i)),
    StableHlo.nullary main_c_11 (fun i => lit12 (S2.rowMajor i)),
    StableHlo.nullary main_c_12 (fun i => lit13 (S2.rowMajor i)),
    StableHlo.nullary main_c_13 (fun i => lit14 (S2.rowMajor i)),
    StableHlo.nullary main_c_14 (fun i => lit15 (S2.rowMajor i)),
    StableHlo.nullary main_c_15 (fun i => lit16 (S2.rowMajor i)),
    StableHlo.nullary main_c_16 (fun i => lit17 (S2.rowMajor i)),
    StableHlo.nullary main_c_17 (fun i => lit18 (S2.rowMajor i)),
    StableHlo.nullary main_c_18 (fun i => lit19 (S2.rowMajor i)),
    StableHlo.nullary main_c_19 (fun i => lit20 (S2.rowMajor i)),
    StableHlo.nullary main_c_20 (fun i => lit21 (S2.rowMajor i)),
    StableHlo.nullary main_c_21 (fun i => lit22 (S2.rowMajor i)),
    StableHlo.nullary main_c_22 (fun i => lit23 (S2.rowMajor i)),
    StableHlo.nullary main_cst (constant S_ .f32 0x40000000#32),
    StableHlo.unary main_cst main_v0 (broadcastInDim S4096x32x3 ![] bcast_S_S4096x32x3 : (⟨S_, .f32⟩ : BufTy).Contents (Elt F) → (⟨S4096x32x3, .f32⟩ : BufTy).Contents (Elt F)),
    StableHlo.binary main_arg0 main_v0 main_v1 (mulf : (⟨S4096x32x3, .f32⟩ : BufTy).Contents (Elt F) → (⟨S4096x32x3, .f32⟩ : BufTy).Contents (Elt F) → (⟨S4096x32x3, .f32⟩ : BufTy).Contents (Elt F)),
    StableHlo.nullary main_cst_23 (constant S_ .f32 0x3F800000#32),
    StableHlo.unary main_cst_23 main_v2 (broadcastInDim S4096x32x3 ![] bcast_S_S4096x32x3 : (⟨S_, .f32⟩ : BufTy).Contents (Elt F) → (⟨S4096x32x3, .f32⟩ : BufTy).Contents (Elt F)),
    StableHlo.binary main_v1 main_v2 main_v3 (subf : (⟨S4096x32x3, .f32⟩ : BufTy).Contents (Elt F) → (⟨S4096x32x3, .f32⟩ : BufTy).Contents (Elt F) → (⟨S4096x32x3, .f32⟩ : BufTy).Contents (Elt F)),
    StableHlo.unary main_arg1 main_v4 (broadcastInDim S4096x1 ![0] bcast_S4096_S4096x1_0 : (⟨S4096, .f32⟩ : BufTy).Contents (Elt F) → (⟨S4096x1, .f32⟩ : BufTy).Contents (Elt F)),
    StableHlo.unary main_v4 main_v5 (broadcastInDim S4096x32 ![0, 1] bcast_S4096x1_S4096x32_0_1 : (⟨S4096x1, .f32⟩ : BufTy).Contents (Elt F) → (⟨S4096x32, .f32⟩ : BufTy).Contents (Elt F)),
    StableHlo.unary main_v5 main_v6 (broadcastInDim S4096x32x1 ![0, 1] bcast_S4096x32_S4096x32x1_0_1 : (⟨S4096x32, .f32⟩ : BufTy).Contents (Elt F) → (⟨S4096x32x1, .f32⟩ : BufTy).Contents (Elt F)),
    StableHlo.binary main_v3 main_v6 main_v7 ((fun a b => concatenate S4096x32x4 2 [⟨S4096x32x3, a⟩, ⟨S4096x32x1, b⟩] concatenates_S4096x32x3_S4096x32x1_S4096x32x4_d2) : (⟨S4096x32x3, .f32⟩ : BufTy).Contents (Elt F) → (⟨S4096x32x1, .f32⟩ : BufTy).Contents (Elt F) → (⟨S4096x32x4, .f32⟩ : BufTy).Contents (Elt F)),
    StableHlo.reshape main_v7 main_v8 rfl shapeCasts_S4096x32x4_S131072x4,
    StableHlo.nullary main_c_24 (constantI S_ 32 0#32),
    StableHlo.unary main_c_24 main_v9 (broadcastInDim S2 ![] bcast_S_S2 : (⟨S_, .i32⟩ : BufTy).Contents (Elt F) → (⟨S2, .i32⟩ : BufTy).Contents (Elt F)),
    StableHlo.binary main_c main_v9 main_v10 (cmpi .slt : (⟨S2, .i32⟩ : BufTy).Contents (Elt F) → (⟨S2, .i32⟩ : BufTy).Contents (Elt F) → (⟨S2, .i1⟩ : BufTy).Contents (Elt F)),
    StableHlo.nullary main_c_25 (constantI S_ 32 4#32),
    StableHlo.unary main_c_25 main_v11 (broadcastInDim S2 ![] bcast_S_S2 : (⟨S_, .i32⟩ : BufTy).Contents (Elt F) → (⟨S2, .i32⟩ : BufTy).Contents (Elt F)),
    StableHlo.binary main_c main_v11 main_v12 (addi : (⟨S2, .i32⟩ : BufTy).Contents (Elt F) → (⟨S2, .i32⟩ : BufTy).Contents (Elt F) → (⟨S2, .i32⟩ : BufTy).Contents (Elt F)),
    StableHlo.ternary main_v10 main_v12 main_c main_v13 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v13 main_v14 (broadcastInDim S2x1 ![0] bcast_S2_S2x1_0 : (⟨S2, .i32⟩ : BufTy).Contents (Elt F) → (⟨S2x1, .i32⟩ : BufTy).Contents (Elt F)),
    StableHlo.binary main_v8 main_v14 main_v15 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v15 main_v16 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v16 main_v17 rfl shapeCasts_S131072x1_S131072,
    StableHlo.nullary main_cst_26 (constant S_ .f32 0x3F800000#32),
    StableHlo.unary main_cst_26 main_v18 (broadcastInDim S131072 ![] bcast_S_S131072 : (⟨S_, .f32⟩ : BufTy).Contents (Elt F) → (⟨S131072, .f32⟩ : BufTy).Contents (Elt F)),
    StableHlo.binary main_v17 main_v18 main_v19 (addf : (⟨S131072, .f32⟩ : BufTy).Contents (Elt F) → (⟨S131072, .f32⟩ : BufTy).Contents (Elt F) → (⟨S131072, .f32⟩ : BufTy).Contents (Elt F)),
    StableHlo.nullary main_cst_27 (constant S_ .f32 0x3F000000#32),
    StableHlo.unary main_cst_27 main_v20 (broadcastInDim S131072 ![] bcast_S_S131072 : (⟨S_, .f32⟩ : BufTy).Contents (Elt F) → (⟨S131072, .f32⟩ : BufTy).Contents (Elt F)),
    StableHlo.binary main_v19 main_v20 main_v21 (mulf : (⟨S131072, .f32⟩ : BufTy).Contents (Elt F) → (⟨S131072, .f32⟩ : BufTy).Contents (Elt F) → (⟨S131072, .f32⟩ : BufTy).Contents (Elt F)),
    StableHlo.nullary main_cst_28 (constant S_ .f32 0x427C0000#32),
    StableHlo.unary main_cst_28 main_v22 (broadcastInDim S131072 ![] bcast_S_S131072 : (⟨S_, .f32⟩ : BufTy).Contents (Elt F) → (⟨S131072, .f32⟩ : BufTy).Contents (Elt F)),
    StableHlo.binary main_v21 main_v22 main_v23 (mulf : (⟨S131072, .f32⟩ : BufTy).Contents (Elt F) → (⟨S131072, .f32⟩ : BufTy).Contents (Elt F) → (⟨S131072, .f32⟩ : BufTy).Contents (Elt F)),
    StableHlo.unary main_v15 main_v24 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v24 main_v25 rfl shapeCasts_S131072x1_S131072,
    StableHlo.nullary main_cst_29 (constant S_ .f32 0x3F800000#32),
    StableHlo.unary main_cst_29 main_v26 (broadcastInDim S131072 ![] bcast_S_S131072 : (⟨S_, .f32⟩ : BufTy).Contents (Elt F) → (⟨S131072, .f32⟩ : BufTy).Contents (Elt F)),
    StableHlo.binary main_v25 main_v26 main_v27 (addf : (⟨S131072, .f32⟩ : BufTy).Contents (Elt F) → (⟨S131072, .f32⟩ : BufTy).Contents (Elt F) → (⟨S131072, .f32⟩ : BufTy).Contents (Elt F)) ]
theorem w0_eq (c : Dev nD) : main_part0 (F := F) c = seq w0 := rfl
theorem w0_sub : (w0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., nullary_bufs_sub .., unary_bufs_sub .., binary_bufs_sub .., unary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub ..⟩
theorem w0_fresh : (w0 : List (HloOp τ sig (Elt F))).Forall fun op => op.fresh = ∅ := by
  simp only [List.Forall]; repeat' constructor
set_option maxHeartbeats 4000000 in
theorem w0_chain : Chain 28 (w0 : List (HloOp τ sig (Elt F))) :=
  Chain.cons (stepAt_nullary 28 _ _ rfl) <|
  Chain.cons (stepAt_nullary 29 _ _ rfl) <|
  Chain.cons (stepAt_nullary 30 _ _ rfl) <|
  Chain.cons (stepAt_nullary 31 _ _ rfl) <|
  Chain.cons (stepAt_nullary 32 _ _ rfl) <|
  Chain.cons (stepAt_nullary 33 _ _ rfl) <|
  Chain.cons (stepAt_nullary 34 _ _ rfl) <|
  Chain.cons (stepAt_nullary 35 _ _ rfl) <|
  Chain.cons (stepAt_nullary 36 _ _ rfl) <|
  Chain.cons (stepAt_nullary 37 _ _ rfl) <|
  Chain.cons (stepAt_nullary 38 _ _ rfl) <|
  Chain.cons (stepAt_nullary 39 _ _ rfl) <|
  Chain.cons (stepAt_nullary 40 _ _ rfl) <|
  Chain.cons (stepAt_nullary 41 _ _ rfl) <|
  Chain.cons (stepAt_nullary 42 _ _ rfl) <|
  Chain.cons (stepAt_nullary 43 _ _ rfl) <|
  Chain.cons (stepAt_nullary 44 _ _ rfl) <|
  Chain.cons (stepAt_nullary 45 _ _ rfl) <|
  Chain.cons (stepAt_nullary 46 _ _ rfl) <|
  Chain.cons (stepAt_nullary 47 _ _ rfl) <|
  Chain.cons (stepAt_nullary 48 _ _ rfl) <|
  Chain.cons (stepAt_nullary 49 _ _ rfl) <|
  Chain.cons (stepAt_nullary 50 _ _ rfl) <|
  Chain.cons (stepAt_nullary 51 _ _ rfl) <|
  Chain.cons (stepAt_nullary 52 _ _ rfl) <|
  Chain.cons (stepAt_unary 53 _ _ _ rfl (by decide)) <|
  Chain.cons (stepAt_binary 54 _ _ _ _ rfl (by decide) (by decide)) <|
  Chain.cons (stepAt_nullary 55 _ _ rfl) <|
  Chain.cons (stepAt_unary 56 _ _ _ rfl (by decide)) <|
  Chain.cons (stepAt_binary 57 _ _ _ _ rfl (by decide) (by decide)) <|
  Chain.cons (stepAt_unary 58 _ _ _ rfl (by decide)) <|
  Chain.cons (stepAt_unary 59 _ _ _ rfl (by decide)) <|
  Chain.cons (stepAt_unary 60 _ _ _ rfl (by decide)) <|
  Chain.cons (stepAt_binary 61 _ _ _ _ rfl (by decide) (by decide)) <|
  Chain.cons (stepAt_reshape 62 _ _ _ _ rfl (by decide)) <|
  Chain.cons (stepAt_nullary 63 _ _ rfl) <|
  Chain.cons (stepAt_unary 64 _ _ _ rfl (by decide)) <|
  Chain.cons (stepAt_binary 65 _ _ _ _ rfl (by decide) (by decide)) <|
  Chain.cons (stepAt_nullary 66 _ _ rfl) <|
  Chain.cons (stepAt_unary 67 _ _ _ rfl (by decide)) <|
  Chain.cons (stepAt_binary 68 _ _ _ _ rfl (by decide) (by decide)) <|
  Chain.cons (stepAt_ternary 69 _ _ _ _ _ rfl (by decide) (by decide) (by decide)) <|
  Chain.cons (stepAt_unary 70 _ _ _ rfl (by decide)) <|
  Chain.cons (stepAt_binary 71 _ _ _ _ rfl (by decide) (by decide)) <|
  Chain.cons (stepAt_unary 72 _ _ _ rfl (by decide)) <|
  Chain.cons (stepAt_reshape 73 _ _ _ _ rfl (by decide)) <|
  Chain.cons (stepAt_nullary 74 _ _ rfl) <|
  Chain.cons (stepAt_unary 75 _ _ _ rfl (by decide)) <|
  Chain.cons (stepAt_binary 76 _ _ _ _ rfl (by decide) (by decide)) <|
  Chain.cons (stepAt_nullary 77 _ _ rfl) <|
  Chain.cons (stepAt_unary 78 _ _ _ rfl (by decide)) <|
  Chain.cons (stepAt_binary 79 _ _ _ _ rfl (by decide) (by decide)) <|
  Chain.cons (stepAt_nullary 80 _ _ rfl) <|
  Chain.cons (stepAt_unary 81 _ _ _ rfl (by decide)) <|
  Chain.cons (stepAt_binary 82 _ _ _ _ rfl (by decide) (by decide)) <|
  Chain.cons (stepAt_unary 83 _ _ _ rfl (by decide)) <|
  Chain.cons (stepAt_reshape 84 _ _ _ _ rfl (by decide)) <|
  Chain.cons (stepAt_nullary 85 _ _ rfl) <|
  Chain.cons (stepAt_unary 86 _ _ _ rfl (by decide)) <|
  Chain.cons (stepAt_binary 87 _ _ _ _ rfl (by decide) (by decide)) <|
  Chain.nil
theorem w0_length : (w0 : List (HloOp τ sig (Elt F))).length = 60 := rfl

/-- Window 1 of @main: 80 operations, writing buffers 88 … 167. -/
abbrev w1 : List (HloOp τ sig (Elt F)) :=
  [ StableHlo.nullary main_cst_30 (constant S_ .f32 0x3F000000#32),
    StableHlo.unary main_cst_30 main_v28 (broadcastInDim S131072 ![] bcast_S_S131072 : (⟨S_, .f32⟩ : BufTy).Contents (Elt F) → (⟨S131072, .f32⟩ : BufTy).Contents (Elt F)),
    StableHlo.binary main_v27 main_v28 main_v29 (mulf : (⟨S131072, .f32⟩ : BufTy).Contents (Elt F) → (⟨S131072, .f32⟩ : BufTy).Contents (Elt F) → (⟨S131072, .f32⟩ : BufTy).Contents (Elt F)),
    StableHlo.nullary main_cst_31 (constant S_ .f32 0x427C0000#32),
    StableHlo.unary main_cst_31 main_v30 (broadcastInDim S131072 ![] bcast_S_S131072 : (⟨S_, .f32⟩ : BufTy).Contents (Elt F) → (⟨S131072, .f32⟩ : BufTy).Contents (Elt F)),
    StableHlo.binary main_v29 main_v30 main_v31 (mulf : (⟨S131072, .f32⟩ : BufTy).Contents (Elt F) → (⟨S131072, .f32⟩ : BufTy).Contents (Elt F) → (⟨S131072, .f32⟩ : BufTy).Contents (Elt F)),
    StableHlo.unary main_v23 main_v32 (Host.floor : (⟨S131072, .f32⟩ : BufTy).Contents (Elt F) → (⟨S131072, .f32⟩ : BufTy).Contents (Elt F)),
    StableHlo.unary main_v31 main_v33 (Host.floor : (⟨S131072, .f32⟩ : BufTy).Contents (Elt F) → (⟨S131072, .f32⟩ : BufTy).Contents (Elt F)),
    StableHlo.binary main_v23 main_v32 main_v34 (subf : (⟨S131072, .f32⟩ : BufTy).Contents (Elt F) → (⟨S131072, .f32⟩ : BufTy).Contents (Elt F) → (⟨S131072, .f32⟩ : BufTy).Contents (Elt F)),
    StableHlo.binary main_v31 main_v33 main_v35 (subf : (⟨S131072, .f32⟩ : BufTy).Contents (Elt F) → (⟨S131072, .f32⟩ : BufTy).Contents (Elt F) → (⟨S131072, .f32⟩ : BufTy).Contents (Elt F)),
    StableHlo.unary main_v32 main_v36 (fptosi 32 : (⟨S131072, .f32⟩ : BufTy).Contents (Elt F) → (⟨S131072, .i32⟩ : BufTy).Contents (Elt F)),
    StableHlo.nullary main_c_32 (constantI S_ 32 0#32),
    StableHlo.nullary main_c_33 (constantI S_ 32 63#32),
    StableHlo.TRef.unary (.of main_c_32) main_call0.v0 id,
    StableHlo.TRef.unary main_call0.v0 main_call0.v1 (broadcastInDim S131072 ![] bcast_S_S131072),
    StableHlo.TRef.binary main_call0.v1 (.of main_v36) main_call0.v2 maxsi,
    StableHlo.TRef.unary (.of main_c_33) main_call0.v3 id,
    StableHlo.TRef.unary main_call0.v3 main_call0.v4 (broadcastInDim S131072 ![] bcast_S_S131072),
    StableHlo.TRef.binary main_call0.v4 main_call0.v2 main_call0.v5 minsi,
    StableHlo.nullary main_c_34 (constantI S_ 32 1#32),
    StableHlo.unary main_c_34 main_v38 (broadcastInDim S131072 ![] bcast_S_S131072 : (⟨S_, .i32⟩ : BufTy).Contents (Elt F) → (⟨S131072, .i32⟩ : BufTy).Contents (Elt F)),
    StableHlo.binary main_v37 main_v38 main_v39 (addi : (⟨S131072, .i32⟩ : BufTy).Contents (Elt F) → (⟨S131072, .i32⟩ : BufTy).Contents (Elt F) → (⟨S131072, .i32⟩ : BufTy).Contents (Elt F)),
    StableHlo.nullary main_c_35 (constantI S_ 32 0#32),
    StableHlo.nullary main_c_36 (constantI S_ 32 63#32),
    StableHlo.TRef.unary (.of main_c_35) main_call1.v0 id,
    StableHlo.TRef.unary main_call1.v0 main_call1.v1 (broadcastInDim S131072 ![] bcast_S_S131072),
    StableHlo.TRef.binary main_call1.v1 (.of main_v39) main_call1.v2 maxsi,
    StableHlo.TRef.unary (.of main_c_36) main_call1.v3 id,
    StableHlo.TRef.unary main_call1.v3 main_call1.v4 (broadcastInDim S131072 ![] bcast_S_S131072),
    StableHlo.TRef.binary main_call1.v4 main_call1.v2 main_call1.v5 minsi,
    StableHlo.unary main_v33 main_v41 (fptosi 32 : (⟨S131072, .f32⟩ : BufTy).Contents (Elt F) → (⟨S131072, .i32⟩ : BufTy).Contents (Elt F)),
    StableHlo.nullary main_c_37 (constantI S_ 32 0#32),
    StableHlo.nullary main_c_38 (constantI S_ 32 63#32),
    StableHlo.TRef.unary (.of main_c_37) main_call2.v0 id,
    StableHlo.TRef.unary main_call2.v0 main_call2.v1 (broadcastInDim S131072 ![] bcast_S_S131072),
    StableHlo.TRef.binary main_call2.v1 (.of main_v41) main_call2.v2 maxsi,
    StableHlo.TRef.unary (.of main_c_38) main_call2.v3 id,
    StableHlo.TRef.unary main_call2.v3 main_call2.v4 (broadcastInDim S131072 ![] bcast_S_S131072),
    StableHlo.TRef.binary main_call2.v4 main_call2.v2 main_call2.v5 minsi,
    StableHlo.nullary main_c_39 (constantI S_ 32 1#32),
    StableHlo.unary main_c_39 main_v43 (broadcastInDim S131072 ![] bcast_S_S131072 : (⟨S_, .i32⟩ : BufTy).Contents (Elt F) → (⟨S131072, .i32⟩ : BufTy).Contents (Elt F)),
    StableHlo.binary main_v42 main_v43 main_v44 (addi : (⟨S131072, .i32⟩ : BufTy).Contents (Elt F) → (⟨S131072, .i32⟩ : BufTy).Contents (Elt F) → (⟨S131072, .i32⟩ : BufTy).Contents (Elt F)),
    StableHlo.nullary main_c_40 (constantI S_ 32 0#32),
    StableHlo.nullary main_c_41 (constantI S_ 32 63#32),
    StableHlo.TRef.unary (.of main_c_40) main_call3.v0 id,
    StableHlo.TRef.unary main_call3.v0 main_call3.v1 (broadcastInDim S131072 ![] bcast_S_S131072),
    StableHlo.TRef.binary main_call3.v1 (.of main_v44) main_call3.v2 maxsi,
    StableHlo.TRef.unary (.of main_c_41) main_call3.v3 id,
    StableHlo.TRef.unary main_call3.v3 main_call3.v4 (broadcastInDim S131072 ![] bcast_S_S131072),
    StableHlo.TRef.binary main_call3.v4 main_call3.v2 main_call3.v5 minsi,
    StableHlo.nullary main_c_42 (constantI S_ 32 0#32),
    StableHlo.unary main_c_42 main_v46 (broadcastInDim S131072 ![] bcast_S_S131072 : (⟨S_, .i32⟩ : BufTy).Contents (Elt F) → (⟨S131072, .i32⟩ : BufTy).Contents (Elt F)),
    StableHlo.binary main_v42 main_v46 main_v47 (cmpi .slt : (⟨S131072, .i32⟩ : BufTy).Contents (Elt F) → (⟨S131072, .i32⟩ : BufTy).Contents (Elt F) → (⟨S131072, .i1⟩ : BufTy).Contents (Elt F)),
    StableHlo.nullary main_c_43 (constantI S_ 32 64#32),
    StableHlo.unary main_c_43 main_v48 (broadcastInDim S131072 ![] bcast_S_S131072 : (⟨S_, .i32⟩ : BufTy).Contents (Elt F) → (⟨S131072, .i32⟩ : BufTy).Contents (Elt F)),
    StableHlo.binary main_v42 main_v48 main_v49 (addi : (⟨S131072, .i32⟩ : BufTy).Contents (Elt F) → (⟨S131072, .i32⟩ : BufTy).Contents (Elt F) → (⟨S131072, .i32⟩ : BufTy).Contents (Elt F)),
    StableHlo.ternary main_v47 main_v49 main_v42 main_v50 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_44 (constantI S_ 32 0#32),
    StableHlo.unary main_c_44 main_v51 (broadcastInDim S131072 ![] bcast_S_S131072 : (⟨S_, .i32⟩ : BufTy).Contents (Elt F) → (⟨S131072, .i32⟩ : BufTy).Contents (Elt F)),
    StableHlo.binary main_v37 main_v51 main_v52 (cmpi .slt : (⟨S131072, .i32⟩ : BufTy).Contents (Elt F) → (⟨S131072, .i32⟩ : BufTy).Contents (Elt F) → (⟨S131072, .i1⟩ : BufTy).Contents (Elt F)),
    StableHlo.nullary main_c_45 (constantI S_ 32 64#32),
    StableHlo.unary main_c_45 main_v53 (broadcastInDim S131072 ![] bcast_S_S131072 : (⟨S_, .i32⟩ : BufTy).Contents (Elt F) → (⟨S131072, .i32⟩ : BufTy).Contents (Elt F)),
    StableHlo.binary main_v37 main_v53 main_v54 (addi : (⟨S131072, .i32⟩ : BufTy).Contents (Elt F) → (⟨S131072, .i32⟩ : BufTy).Contents (Elt F) → (⟨S131072, .i32⟩ : BufTy).Contents (Elt F)),
    StableHlo.ternary main_v52 main_v54 main_v37 main_v55 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v50 main_v56 (broadcastInDim S131072x1 ![0] bcast_S131072_S131072x1_0 : (⟨S131072, .i32⟩ : BufTy).Contents (Elt F) → (⟨S131072x1, .i32⟩ : BufTy).Contents (Elt F)),
    StableHlo.unary main_v55 main_v57 (broadcastInDim S131072x1 ![0] bcast_S131072_S131072x1_0 : (⟨S131072, .i32⟩ : BufTy).Contents (Elt F) → (⟨S131072x1, .i32⟩ : BufTy).Contents (Elt F)),
    StableHlo.binary main_v56 main_v57 main_v58 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg2 main_v58 main_v59 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_46 (constantI S_ 32 0#32),
    StableHlo.unary main_c_46 main_v60 (broadcastInDim S131072 ![] bcast_S_S131072 : (⟨S_, .i32⟩ : BufTy).Contents (Elt F) → (⟨S131072, .i32⟩ : BufTy).Contents (Elt F)),
    StableHlo.binary main_v42 main_v60 main_v61 (cmpi .slt : (⟨S131072, .i32⟩ : BufTy).Contents (Elt F) → (⟨S131072, .i32⟩ : BufTy).Contents (Elt F) → (⟨S131072, .i1⟩ : BufTy).Contents (Elt F)),
    StableHlo.nullary main_c_47 (constantI S_ 32 64#32),
    StableHlo.unary main_c_47 main_v62 (broadcastInDim S131072 ![] bcast_S_S131072 : (⟨S_, .i32⟩ : BufTy).Contents (Elt F) → (⟨S131072, .i32⟩ : BufTy).Contents (Elt F)),
    StableHlo.binary main_v42 main_v62 main_v63 (addi : (⟨S131072, .i32⟩ : BufTy).Contents (Elt F) → (⟨S131072, .i32⟩ : BufTy).Contents (Elt F) → (⟨S131072, .i32⟩ : BufTy).Contents (Elt F)),
    StableHlo.ternary main_v61 main_v63 main_v42 main_v64 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_48 (constantI S_ 32 0#32),
    StableHlo.unary main_c_48 main_v65 (broadcastInDim S131072 ![] bcast_S_S131072 : (⟨S_, .i32⟩ : BufTy).Contents (Elt F) → (⟨S131072, .i32⟩ : BufTy).Contents (Elt F)),
    StableHlo.binary main_v40 main_v65 main_v66 (cmpi .slt : (⟨S131072, .i32⟩ : BufTy).Contents (Elt F) → (⟨S131072, .i32⟩ : BufTy).Contents (Elt F) → (⟨S131072, .i1⟩ : BufTy).Contents (Elt F)),
    StableHlo.nullary main_c_49 (constantI S_ 32 64#32),
    StableHlo.unary main_c_49 main_v67 (broadcastInDim S131072 ![] bcast_S_S131072 : (⟨S_, .i32⟩ : BufTy).Contents (Elt F) → (⟨S131072, .i32⟩ : BufTy).Contents (Elt F)) ]
theorem w1_eq (c : Dev nD) : main_part1 (F := F) c = seq w1 := rfl
theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩
theorem w1_fresh : (w1 : List (HloOp τ sig (Elt F))).Forall fun op => op.fresh = ∅ := by
  simp only [List.Forall]; repeat' constructor
set_option maxHeartbeats 4000000 in
theorem w1_chain : Chain 88 (w1 : List (HloOp τ sig (Elt F))) :=
  Chain.cons (stepAt_nullary 88 _ _ rfl) <|
  Chain.cons (stepAt_unary 89 _ _ _ rfl (by decide)) <|
  Chain.cons (stepAt_binary 90 _ _ _ _ rfl (by decide) (by decide)) <|
  Chain.cons (stepAt_nullary 91 _ _ rfl) <|
  Chain.cons (stepAt_unary 92 _ _ _ rfl (by decide)) <|
  Chain.cons (stepAt_binary 93 _ _ _ _ rfl (by decide) (by decide)) <|
  Chain.cons (stepAt_unary 94 _ _ _ rfl (by decide)) <|
  Chain.cons (stepAt_unary 95 _ _ _ rfl (by decide)) <|
  Chain.cons (stepAt_binary 96 _ _ _ _ rfl (by decide) (by decide)) <|
  Chain.cons (stepAt_binary 97 _ _ _ _ rfl (by decide) (by decide)) <|
  Chain.cons (stepAt_unary 98 _ _ _ rfl (by decide)) <|
  Chain.cons (stepAt_nullary 99 _ _ rfl) <|
  Chain.cons (stepAt_nullary 100 _ _ rfl) <|
  Chain.cons (stepAt_unary 101 _ _ _ rfl (by decide)) <|
  Chain.cons (stepAt_unary 102 _ _ _ rfl (by decide)) <|
  Chain.cons (stepAt_binary 103 _ _ _ _ rfl (by decide) (by decide)) <|
  Chain.cons (stepAt_unary 104 _ _ _ rfl (by decide)) <|
  Chain.cons (stepAt_unary 105 _ _ _ rfl (by decide)) <|
  Chain.cons (stepAt_binary 106 _ _ _ _ rfl (by decide) (by decide)) <|
  Chain.cons (stepAt_nullary 107 _ _ rfl) <|
  Chain.cons (stepAt_unary 108 _ _ _ rfl (by decide)) <|
  Chain.cons (stepAt_binary 109 _ _ _ _ rfl (by decide) (by decide)) <|
  Chain.cons (stepAt_nullary 110 _ _ rfl) <|
  Chain.cons (stepAt_nullary 111 _ _ rfl) <|
  Chain.cons (stepAt_unary 112 _ _ _ rfl (by decide)) <|
  Chain.cons (stepAt_unary 113 _ _ _ rfl (by decide)) <|
  Chain.cons (stepAt_binary 114 _ _ _ _ rfl (by decide) (by decide)) <|
  Chain.cons (stepAt_unary 115 _ _ _ rfl (by decide)) <|
  Chain.cons (stepAt_unary 116 _ _ _ rfl (by decide)) <|
  Chain.cons (stepAt_binary 117 _ _ _ _ rfl (by decide) (by decide)) <|
  Chain.cons (stepAt_unary 118 _ _ _ rfl (by decide)) <|
  Chain.cons (stepAt_nullary 119 _ _ rfl) <|
  Chain.cons (stepAt_nullary 120 _ _ rfl) <|
  Chain.cons (stepAt_unary 121 _ _ _ rfl (by decide)) <|
  Chain.cons (stepAt_unary 122 _ _ _ rfl (by decide)) <|
  Chain.cons (stepAt_binary 123 _ _ _ _ rfl (by decide) (by decide)) <|
  Chain.cons (stepAt_unary 124 _ _ _ rfl (by decide)) <|
  Chain.cons (stepAt_unary 125 _ _ _ rfl (by decide)) <|
  Chain.cons (stepAt_binary 126 _ _ _ _ rfl (by decide) (by decide)) <|
  Chain.cons (stepAt_nullary 127 _ _ rfl) <|
  Chain.cons (stepAt_unary 128 _ _ _ rfl (by decide)) <|
  Chain.cons (stepAt_binary 129 _ _ _ _ rfl (by decide) (by decide)) <|
  Chain.cons (stepAt_nullary 130 _ _ rfl) <|
  Chain.cons (stepAt_nullary 131 _ _ rfl) <|
  Chain.cons (stepAt_unary 132 _ _ _ rfl (by decide)) <|
  Chain.cons (stepAt_unary 133 _ _ _ rfl (by decide)) <|
  Chain.cons (stepAt_binary 134 _ _ _ _ rfl (by decide) (by decide)) <|
  Chain.cons (stepAt_unary 135 _ _ _ rfl (by decide)) <|
  Chain.cons (stepAt_unary 136 _ _ _ rfl (by decide)) <|
  Chain.cons (stepAt_binary 137 _ _ _ _ rfl (by decide) (by decide)) <|
  Chain.cons (stepAt_nullary 138 _ _ rfl) <|
  Chain.cons (stepAt_unary 139 _ _ _ rfl (by decide)) <|
  Chain.cons (stepAt_binary 140 _ _ _ _ rfl (by decide) (by decide)) <|
  Chain.cons (stepAt_nullary 141 _ _ rfl) <|
  Chain.cons (stepAt_unary 142 _ _ _ rfl (by decide)) <|
  Chain.cons (stepAt_binary 143 _ _ _ _ rfl (by decide) (by decide)) <|
  Chain.cons (stepAt_ternary 144 _ _ _ _ _ rfl (by decide) (by decide) (by decide)) <|
  Chain.cons (stepAt_nullary 145 _ _ rfl) <|
  Chain.cons (stepAt_unary 146 _ _ _ rfl (by decide)) <|
  Chain.cons (stepAt_binary 147 _ _ _ _ rfl (by decide) (by decide)) <|
  Chain.cons (stepAt_nullary 148 _ _ rfl) <|
  Chain.cons (stepAt_unary 149 _ _ _ rfl (by decide)) <|
  Chain.cons (stepAt_binary 150 _ _ _ _ rfl (by decide) (by decide)) <|
  Chain.cons (stepAt_ternary 151 _ _ _ _ _ rfl (by decide) (by decide) (by decide)) <|
  Chain.cons (stepAt_unary 152 _ _ _ rfl (by decide)) <|
  Chain.cons (stepAt_unary 153 _ _ _ rfl (by decide)) <|
  Chain.cons (stepAt_binary 154 _ _ _ _ rfl (by decide) (by decide)) <|
  Chain.cons (stepAt_binary 155 _ _ _ _ rfl (by decide) (by decide)) <|
  Chain.cons (stepAt_nullary 156 _ _ rfl) <|
  Chain.cons (stepAt_unary 157 _ _ _ rfl (by decide)) <|
  Chain.cons (stepAt_binary 158 _ _ _ _ rfl (by decide) (by decide)) <|
  Chain.cons (stepAt_nullary 159 _ _ rfl) <|
  Chain.cons (stepAt_unary 160 _ _ _ rfl (by decide)) <|
  Chain.cons (stepAt_binary 161 _ _ _ _ rfl (by decide) (by decide)) <|
  Chain.cons (stepAt_ternary 162 _ _ _ _ _ rfl (by decide) (by decide) (by decide)) <|
  Chain.cons (stepAt_nullary 163 _ _ rfl) <|
  Chain.cons (stepAt_unary 164 _ _ _ rfl (by decide)) <|
  Chain.cons (stepAt_binary 165 _ _ _ _ rfl (by decide) (by decide)) <|
  Chain.cons (stepAt_nullary 166 _ _ rfl) <|
  Chain.cons (stepAt_unary 167 _ _ _ rfl (by decide)) <|
  Chain.nil
theorem w1_length : (w1 : List (HloOp τ sig (Elt F))).length = 80 := rfl

/-- Window 2 of @main: 60 operations, writing buffers 168 … 227. -/
abbrev w2 : List (HloOp τ sig (Elt F)) :=
  [ StableHlo.binary main_v40 main_v67 main_v68 (addi : (⟨S131072, .i32⟩ : BufTy).Contents (Elt F) → (⟨S131072, .i32⟩ : BufTy).Contents (Elt F) → (⟨S131072, .i32⟩ : BufTy).Contents (Elt F)),
    StableHlo.ternary main_v66 main_v68 main_v40 main_v69 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v64 main_v70 (broadcastInDim S131072x1 ![0] bcast_S131072_S131072x1_0 : (⟨S131072, .i32⟩ : BufTy).Contents (Elt F) → (⟨S131072x1, .i32⟩ : BufTy).Contents (Elt F)),
    StableHlo.unary main_v69 main_v71 (broadcastInDim S131072x1 ![0] bcast_S131072_S131072x1_0 : (⟨S131072, .i32⟩ : BufTy).Contents (Elt F) → (⟨S131072x1, .i32⟩ : BufTy).Contents (Elt F)),
    StableHlo.binary main_v70 main_v71 main_v72 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg2 main_v72 main_v73 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_50 (constantI S_ 32 0#32),
    StableHlo.unary main_c_50 main_v74 (broadcastInDim S131072 ![] bcast_S_S131072 : (⟨S_, .i32⟩ : BufTy).Contents (Elt F) → (⟨S131072, .i32⟩ : BufTy).Contents (Elt F)),
    StableHlo.binary main_v45 main_v74 main_v75 (cmpi .slt : (⟨S131072, .i32⟩ : BufTy).Contents (Elt F) → (⟨S131072, .i32⟩ : BufTy).Contents (Elt F) → (⟨S131072, .i1⟩ : BufTy).Contents (Elt F)),
    StableHlo.nullary main_c_51 (constantI S_ 32 64#32),
    StableHlo.unary main_c_51 main_v76 (broadcastInDim S131072 ![] bcast_S_S131072 : (⟨S_, .i32⟩ : BufTy).Contents (Elt F) → (⟨S131072, .i32⟩ : BufTy).Contents (Elt F)),
    StableHlo.binary main_v45 main_v76 main_v77 (addi : (⟨S131072, .i32⟩ : BufTy).Contents (Elt F) → (⟨S131072, .i32⟩ : BufTy).Contents (Elt F) → (⟨S131072, .i32⟩ : BufTy).Contents (Elt F)),
    StableHlo.ternary main_v75 main_v77 main_v45 main_v78 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_52 (constantI S_ 32 0#32),
    StableHlo.unary main_c_52 main_v79 (broadcastInDim S131072 ![] bcast_S_S131072 : (⟨S_, .i32⟩ : BufTy).Contents (Elt F) → (⟨S131072, .i32⟩ : BufTy).Contents (Elt F)),
    StableHlo.binary main_v37 main_v79 main_v80 (cmpi .slt : (⟨S131072, .i32⟩ : BufTy).Contents (Elt F) → (⟨S131072, .i32⟩ : BufTy).Contents (Elt F) → (⟨S131072, .i1⟩ : BufTy).Contents (Elt F)),
    StableHlo.nullary main_c_53 (constantI S_ 32 64#32),
    StableHlo.unary main_c_53 main_v81 (broadcastInDim S131072 ![] bcast_S_S131072 : (⟨S_, .i32⟩ : BufTy).Contents (Elt F) → (⟨S131072, .i32⟩ : BufTy).Contents (Elt F)),
    StableHlo.binary main_v37 main_v81 main_v82 (addi : (⟨S131072, .i32⟩ : BufTy).Contents (Elt F) → (⟨S131072, .i32⟩ : BufTy).Contents (Elt F) → (⟨S131072, .i32⟩ : BufTy).Contents (Elt F)),
    StableHlo.ternary main_v80 main_v82 main_v37 main_v83 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v78 main_v84 (broadcastInDim S131072x1 ![0] bcast_S131072_S131072x1_0 : (⟨S131072, .i32⟩ : BufTy).Contents (Elt F) → (⟨S131072x1, .i32⟩ : BufTy).Contents (Elt F)),
    StableHlo.unary main_v83 main_v85 (broadcastInDim S131072x1 ![0] bcast_S131072_S131072x1_0 : (⟨S131072, .i32⟩ : BufTy).Contents (Elt F) → (⟨S131072x1, .i32⟩ : BufTy).Contents (Elt F)),
    StableHlo.binary main_v84 main_v85 main_v86 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg2 main_v86 main_v87 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_54 (constantI S_ 32 0#32),
    StableHlo.unary main_c_54 main_v88 (broadcastInDim S131072 ![] bcast_S_S131072 : (⟨S_, .i32⟩ : BufTy).Contents (Elt F) → (⟨S131072, .i32⟩ : BufTy).Contents (Elt F)),
    StableHlo.binary main_v45 main_v88 main_v89 (cmpi .slt : (⟨S131072, .i32⟩ : BufTy).Contents (Elt F) → (⟨S131072, .i32⟩ : BufTy).Contents (Elt F) → (⟨S131072, .i1⟩ : BufTy).Contents (Elt F)),
    StableHlo.nullary main_c_55 (constantI S_ 32 64#32),
    StableHlo.unary main_c_55 main_v90 (broadcastInDim S131072 ![] bcast_S_S131072 : (⟨S_, .i32⟩ : BufTy).Contents (Elt F) → (⟨S131072, .i32⟩ : BufTy).Contents (Elt F)),
    StableHlo.binary main_v45 main_v90 main_v91 (addi : (⟨S131072, .i32⟩ : BufTy).Contents (Elt F) → (⟨S131072, .i32⟩ : BufTy).Contents (Elt F) → (⟨S131072, .i32⟩ : BufTy).Contents (Elt F)),
    StableHlo.ternary main_v89 main_v91 main_v45 main_v92 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_56 (constantI S_ 32 0#32),
    StableHlo.unary main_c_56 main_v93 (broadcastInDim S131072 ![] bcast_S_S131072 : (⟨S_, .i32⟩ : BufTy).Contents (Elt F) → (⟨S131072, .i32⟩ : BufTy).Contents (Elt F)),
    StableHlo.binary main_v40 main_v93 main_v94 (cmpi .slt : (⟨S131072, .i32⟩ : BufTy).Contents (Elt F) → (⟨S131072, .i32⟩ : BufTy).Contents (Elt F) → (⟨S131072, .i1⟩ : BufTy).Contents (Elt F)),
    StableHlo.nullary main_c_57 (constantI S_ 32 64#32),
    StableHlo.unary main_c_57 main_v95 (broadcastInDim S131072 ![] bcast_S_S131072 : (⟨S_, .i32⟩ : BufTy).Contents (Elt F) → (⟨S131072, .i32⟩ : BufTy).Contents (Elt F)),
    StableHlo.binary main_v40 main_v95 main_v96 (addi : (⟨S131072, .i32⟩ : BufTy).Contents (Elt F) → (⟨S131072, .i32⟩ : BufTy).Contents (Elt F) → (⟨S131072, .i32⟩ : BufTy).Contents (Elt F)),
    StableHlo.ternary main_v94 main_v96 main_v40 main_v97 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v92 main_v98 (broadcastInDim S131072x1 ![0] bcast_S131072_S131072x1_0 : (⟨S131072, .i32⟩ : BufTy).Contents (Elt F) → (⟨S131072x1, .i32⟩ : BufTy).Contents (Elt F)),
    StableHlo.unary main_v97 main_v99 (broadcastInDim S131072x1 ![0] bcast_S131072_S131072x1_0 : (⟨S131072, .i32⟩ : BufTy).Contents (Elt F) → (⟨S131072x1, .i32⟩ : BufTy).Contents (Elt F)),
    StableHlo.binary main_v98 main_v99 main_v100 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg2 main_v100 main_v101 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_cst_58 (constant S_ .f32 0x3F800000#32),
    StableHlo.unary main_cst_58 main_v102 (broadcastInDim S131072 ![] bcast_S_S131072 : (⟨S_, .f32⟩ : BufTy).Contents (Elt F) → (⟨S131072, .f32⟩ : BufTy).Contents (Elt F)),
    StableHlo.binary main_v102 main_v34 main_v103 (subf : (⟨S131072, .f32⟩ : BufTy).Contents (Elt F) → (⟨S131072, .f32⟩ : BufTy).Contents (Elt F) → (⟨S131072, .f32⟩ : BufTy).Contents (Elt F)),
    StableHlo.unary main_v103 main_v104 (broadcastInDim S1x131072 ![1] bcast_S131072_S1x131072_1 : (⟨S131072, .f32⟩ : BufTy).Contents (Elt F) → (⟨S1x131072, .f32⟩ : BufTy).Contents (Elt F)),
    StableHlo.unary main_v104 main_v105 (broadcastInDim S32x131072 ![0, 1] bcast_S1x131072_S32x131072_0_1 : (⟨S1x131072, .f32⟩ : BufTy).Contents (Elt F) → (⟨S32x131072, .f32⟩ : BufTy).Contents (Elt F)),
    StableHlo.binary main_v59 main_v105 main_v106 (mulf : (⟨S32x131072, .f32⟩ : BufTy).Contents (Elt F) → (⟨S32x131072, .f32⟩ : BufTy).Contents (Elt F) → (⟨S32x131072, .f32⟩ : BufTy).Contents (Elt F)),
    StableHlo.nullary main_cst_59 (constant S_ .f32 0x3F800000#32),
    StableHlo.unary main_cst_59 main_v107 (broadcastInDim S131072 ![] bcast_S_S131072 : (⟨S_, .f32⟩ : BufTy).Contents (Elt F) → (⟨S131072, .f32⟩ : BufTy).Contents (Elt F)),
    StableHlo.binary main_v107 main_v35 main_v108 (subf : (⟨S131072, .f32⟩ : BufTy).Contents (Elt F) → (⟨S131072, .f32⟩ : BufTy).Contents (Elt F) → (⟨S131072, .f32⟩ : BufTy).Contents (Elt F)),
    StableHlo.unary main_v108 main_v109 (broadcastInDim S1x131072 ![1] bcast_S131072_S1x131072_1 : (⟨S131072, .f32⟩ : BufTy).Contents (Elt F) → (⟨S1x131072, .f32⟩ : BufTy).Contents (Elt F)),
    StableHlo.unary main_v109 main_v110 (broadcastInDim S32x131072 ![0, 1] bcast_S1x131072_S32x131072_0_1 : (⟨S1x131072, .f32⟩ : BufTy).Contents (Elt F) → (⟨S32x131072, .f32⟩ : BufTy).Contents (Elt F)),
    StableHlo.binary main_v106 main_v110 main_v111 (mulf : (⟨S32x131072, .f32⟩ : BufTy).Contents (Elt F) → (⟨S32x131072, .f32⟩ : BufTy).Contents (Elt F) → (⟨S32x131072, .f32⟩ : BufTy).Contents (Elt F)),
    StableHlo.unary main_v34 main_v112 (broadcastInDim S1x131072 ![1] bcast_S131072_S1x131072_1 : (⟨S131072, .f32⟩ : BufTy).Contents (Elt F) → (⟨S1x131072, .f32⟩ : BufTy).Contents (Elt F)),
    StableHlo.unary main_v112 main_v113 (broadcastInDim S32x131072 ![0, 1] bcast_S1x131072_S32x131072_0_1 : (⟨S1x131072, .f32⟩ : BufTy).Contents (Elt F) → (⟨S32x131072, .f32⟩ : BufTy).Contents (Elt F)),
    StableHlo.binary main_v73 main_v113 main_v114 (mulf : (⟨S32x131072, .f32⟩ : BufTy).Contents (Elt F) → (⟨S32x131072, .f32⟩ : BufTy).Contents (Elt F) → (⟨S32x131072, .f32⟩ : BufTy).Contents (Elt F)),
    StableHlo.nullary main_cst_60 (constant S_ .f32 0x3F800000#32),
    StableHlo.unary main_cst_60 main_v115 (broadcastInDim S131072 ![] bcast_S_S131072 : (⟨S_, .f32⟩ : BufTy).Contents (Elt F) → (⟨S131072, .f32⟩ : BufTy).Contents (Elt F)),
    StableHlo.binary main_v115 main_v35 main_v116 (subf : (⟨S131072, .f32⟩ : BufTy).Contents (Elt F) → (⟨S131072, .f32⟩ : BufTy).Contents (Elt F) → (⟨S131072, .f32⟩ : BufTy).Contents (Elt F)) ]
theorem w2_eq (c : Dev nD) : main_part2 (F := F) c = seq w2 := rfl
theorem w2_sub : (w2 : List (HloOp τ sig (Elt F))).Forall fun op => op.bufs ⊆ tcRefs τ sig :=
  ⟨binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem w2_fresh : (w2 : List (HloOp τ sig (Elt F))).Forall fun op => op.fresh = ∅ := by
  simp only [List.Forall]; repeat' constructor
set_option maxHeartbeats 4000000 in
theorem w2_chain : Chain 168 (w2 : List (HloOp τ sig (Elt F))) :=
  Chain.cons (stepAt_binary 168 _ _ _ _ rfl (by decide) (by decide)) <|
  Chain.cons (stepAt_ternary 169 _ _ _ _ _ rfl (by decide) (by decide) (by decide)) <|
  Chain.cons (stepAt_unary 170 _ _ _ rfl (by decide)) <|
  Chain.cons (stepAt_unary 171 _ _ _ rfl (by decide)) <|
  Chain.cons (stepAt_binary 172 _ _ _ _ rfl (by decide) (by decide)) <|
  Chain.cons (stepAt_binary 173 _ _ _ _ rfl (by decide) (by decide)) <|
  Chain.cons (stepAt_nullary 174 _ _ rfl) <|
  Chain.cons (stepAt_unary 175 _ _ _ rfl (by decide)) <|
  Chain.cons (stepAt_binary 176 _ _ _ _ rfl (by decide) (by decide)) <|
  Chain.cons (stepAt_nullary 177 _ _ rfl) <|
  Chain.cons (stepAt_unary 178 _ _ _ rfl (by decide)) <|
  Chain.cons (stepAt_binary 179 _ _ _ _ rfl (by decide) (by decide)) <|
  Chain.cons (stepAt_ternary 180 _ _ _ _ _ rfl (by decide) (by decide) (by decide)) <|
  Chain.cons (stepAt_nullary 181 _ _ rfl) <|
  Chain.cons (stepAt_unary 182 _ _ _ rfl (by decide)) <|
  Chain.cons (stepAt_binary 183 _ _ _ _ rfl (by decide) (by decide)) <|
  Chain.cons (stepAt_nullary 184 _ _ rfl) <|
  Chain.cons (stepAt_unary 185 _ _ _ rfl (by decide)) <|
  Chain.cons (stepAt_binary 186 _ _ _ _ rfl (by decide) (by decide)) <|
  Chain.cons (stepAt_ternary 187 _ _ _ _ _ rfl (by decide) (by decide) (by decide)) <|
  Chain.cons (stepAt_unary 188 _ _ _ rfl (by decide)) <|
  Chain.cons (stepAt_unary 189 _ _ _ rfl (by decide)) <|
  Chain.cons (stepAt_binary 190 _ _ _ _ rfl (by decide) (by decide)) <|
  Chain.cons (stepAt_binary 191 _ _ _ _ rfl (by decide) (by decide)) <|
  Chain.cons (stepAt_nullary 192 _ _ rfl) <|
  Chain.cons (stepAt_unary 193 _ _ _ rfl (by decide)) <|
  Chain.cons (stepAt_binary 194 _ _ _ _ rfl (by decide) (by decide)) <|
  Chain.cons (stepAt_nullary 195 _ _ rfl) <|
  Chain.cons (stepAt_unary 196 _ _ _ rfl (by decide)) <|
  Chain.cons (stepAt_binary 197 _ _ _ _ rfl (by decide) (by decide)) <|
  Chain.cons (stepAt_ternary 198 _ _ _ _ _ rfl (by decide) (by decide) (by decide)) <|
  Chain.cons (stepAt_nullary 199 _ _ rfl) <|
  Chain.cons (stepAt_unary 200 _ _ _ rfl (by decide)) <|
  Chain.cons (stepAt_binary 201 _ _ _ _ rfl (by decide) (by decide)) <|
  Chain.cons (stepAt_nullary 202 _ _ rfl) <|
  Chain.cons (stepAt_unary 203 _ _ _ rfl (by decide)) <|
  Chain.cons (stepAt_binary 204 _ _ _ _ rfl (by decide) (by decide)) <|
  Chain.cons (stepAt_ternary 205 _ _ _ _ _ rfl (by decide) (by decide) (by decide)) <|
  Chain.cons (stepAt_unary 206 _ _ _ rfl (by decide)) <|
  Chain.cons (stepAt_unary 207 _ _ _ rfl (by decide)) <|
  Chain.cons (stepAt_binary 208 _ _ _ _ rfl (by decide) (by decide)) <|
  Chain.cons (stepAt_binary 209 _ _ _ _ rfl (by decide) (by decide)) <|
  Chain.cons (stepAt_nullary 210 _ _ rfl) <|
  Chain.cons (stepAt_unary 211 _ _ _ rfl (by decide)) <|
  Chain.cons (stepAt_binary 212 _ _ _ _ rfl (by decide) (by decide)) <|
  Chain.cons (stepAt_unary 213 _ _ _ rfl (by decide)) <|
  Chain.cons (stepAt_unary 214 _ _ _ rfl (by decide)) <|
  Chain.cons (stepAt_binary 215 _ _ _ _ rfl (by decide) (by decide)) <|
  Chain.cons (stepAt_nullary 216 _ _ rfl) <|
  Chain.cons (stepAt_unary 217 _ _ _ rfl (by decide)) <|
  Chain.cons (stepAt_binary 218 _ _ _ _ rfl (by decide) (by decide)) <|
  Chain.cons (stepAt_unary 219 _ _ _ rfl (by decide)) <|
  Chain.cons (stepAt_unary 220 _ _ _ rfl (by decide)) <|
  Chain.cons (stepAt_binary 221 _ _ _ _ rfl (by decide) (by decide)) <|
  Chain.cons (stepAt_unary 222 _ _ _ rfl (by decide)) <|
  Chain.cons (stepAt_unary 223 _ _ _ rfl (by decide)) <|
  Chain.cons (stepAt_binary 224 _ _ _ _ rfl (by decide) (by decide)) <|
  Chain.cons (stepAt_nullary 225 _ _ rfl) <|
  Chain.cons (stepAt_unary 226 _ _ _ rfl (by decide)) <|
  Chain.cons (stepAt_binary 227 _ _ _ _ rfl (by decide) (by decide)) <|
  Chain.nil
theorem w2_length : (w2 : List (HloOp τ sig (Elt F))).length = 60 := rfl

/-- Window 3 of @main: 60 operations, writing buffers 228 … 287. -/
abbrev w3 : List (HloOp τ sig (Elt F)) :=
  [ StableHlo.unary main_v116 main_v117 (broadcastInDim S1x131072 ![1] bcast_S131072_S1x131072_1 : (⟨S131072, .f32⟩ : BufTy).Contents (Elt F) → (⟨S1x131072, .f32⟩ : BufTy).Contents (Elt F)),
    StableHlo.unary main_v117 main_v118 (broadcastInDim S32x131072 ![0, 1] bcast_S1x131072_S32x131072_0_1 : (⟨S1x131072, .f32⟩ : BufTy).Contents (Elt F) → (⟨S32x131072, .f32⟩ : BufTy).Contents (Elt F)),
    StableHlo.binary main_v114 main_v118 main_v119 (mulf : (⟨S32x131072, .f32⟩ : BufTy).Contents (Elt F) → (⟨S32x131072, .f32⟩ : BufTy).Contents (Elt F) → (⟨S32x131072, .f32⟩ : BufTy).Contents (Elt F)),
    StableHlo.binary main_v111 main_v119 main_v120 (addf : (⟨S32x131072, .f32⟩ : BufTy).Contents (Elt F) → (⟨S32x131072, .f32⟩ : BufTy).Contents (Elt F) → (⟨S32x131072, .f32⟩ : BufTy).Contents (Elt F)),
    StableHlo.nullary main_cst_61 (constant S_ .f32 0x3F800000#32),
    StableHlo.unary main_cst_61 main_v121 (broadcastInDim S131072 ![] bcast_S_S131072 : (⟨S_, .f32⟩ : BufTy).Contents (Elt F) → (⟨S131072, .f32⟩ : BufTy).Contents (Elt F)),
    StableHlo.binary main_v121 main_v34 main_v122 (subf : (⟨S131072, .f32⟩ : BufTy).Contents (Elt F) → (⟨S131072, .f32⟩ : BufTy).Contents (Elt F) → (⟨S131072, .f32⟩ : BufTy).Contents (Elt F)),
    StableHlo.unary main_v122 main_v123 (broadcastInDim S1x131072 ![1] bcast_S131072_S1x131072_1 : (⟨S131072, .f32⟩ : BufTy).Contents (Elt F) → (⟨S1x131072, .f32⟩ : BufTy).Contents (Elt F)),
    StableHlo.unary main_v123 main_v124 (broadcastInDim S32x131072 ![0, 1] bcast_S1x131072_S32x131072_0_1 : (⟨S1x131072, .f32⟩ : BufTy).Contents (Elt F) → (⟨S32x131072, .f32⟩ : BufTy).Contents (Elt F)),
    StableHlo.binary main_v87 main_v124 main_v125 (mulf : (⟨S32x131072, .f32⟩ : BufTy).Contents (Elt F) → (⟨S32x131072, .f32⟩ : BufTy).Contents (Elt F) → (⟨S32x131072, .f32⟩ : BufTy).Contents (Elt F)),
    StableHlo.unary main_v35 main_v126 (broadcastInDim S1x131072 ![1] bcast_S131072_S1x131072_1 : (⟨S131072, .f32⟩ : BufTy).Contents (Elt F) → (⟨S1x131072, .f32⟩ : BufTy).Contents (Elt F)),
    StableHlo.unary main_v126 main_v127 (broadcastInDim S32x131072 ![0, 1] bcast_S1x131072_S32x131072_0_1 : (⟨S1x131072, .f32⟩ : BufTy).Contents (Elt F) → (⟨S32x131072, .f32⟩ : BufTy).Contents (Elt F)),
    StableHlo.binary main_v125 main_v127 main_v128 (mulf : (⟨S32x131072, .f32⟩ : BufTy).Contents (Elt F) → (⟨S32x131072, .f32⟩ : BufTy).Contents (Elt F) → (⟨S32x131072, .f32⟩ : BufTy).Contents (Elt F)),
    StableHlo.binary main_v120 main_v128 main_v129 (addf : (⟨S32x131072, .f32⟩ : BufTy).Contents (Elt F) → (⟨S32x131072, .f32⟩ : BufTy).Contents (Elt F) → (⟨S32x131072, .f32⟩ : BufTy).Contents (Elt F)),
    StableHlo.unary main_v34 main_v130 (broadcastInDim S1x131072 ![1] bcast_S131072_S1x131072_1 : (⟨S131072, .f32⟩ : BufTy).Contents (Elt F) → (⟨S1x131072, .f32⟩ : BufTy).Contents (Elt F)),
    StableHlo.unary main_v130 main_v131 (broadcastInDim S32x131072 ![0, 1] bcast_S1x131072_S32x131072_0_1 : (⟨S1x131072, .f32⟩ : BufTy).Contents (Elt F) → (⟨S32x131072, .f32⟩ : BufTy).Contents (Elt F)),
    StableHlo.binary main_v101 main_v131 main_v132 (mulf : (⟨S32x131072, .f32⟩ : BufTy).Contents (Elt F) → (⟨S32x131072, .f32⟩ : BufTy).Contents (Elt F) → (⟨S32x131072, .f32⟩ : BufTy).Contents (Elt F)),
    StableHlo.unary main_v35 main_v133 (broadcastInDim S1x131072 ![1] bcast_S131072_S1x131072_1 : (⟨S131072, .f32⟩ : BufTy).Contents (Elt F) → (⟨S1x131072, .f32⟩ : BufTy).Contents (Elt F)),
    StableHlo.unary main_v133 main_v134 (broadcastInDim S32x131072 ![0, 1] bcast_S1x131072_S32x131072_0_1 : (⟨S1x131072, .f32⟩ : BufTy).Contents (Elt F) → (⟨S32x131072, .f32⟩ : BufTy).Contents (Elt F)),
    StableHlo.binary main_v132 main_v134 main_v135 (mulf : (⟨S32x131072, .f32⟩ : BufTy).Contents (Elt F) → (⟨S32x131072, .f32⟩ : BufTy).Contents (Elt F) → (⟨S32x131072, .f32⟩ : BufTy).Contents (Elt F)),
    StableHlo.binary main_v129 main_v135 main_v136 (addf : (⟨S32x131072, .f32⟩ : BufTy).Contents (Elt F) → (⟨S32x131072, .f32⟩ : BufTy).Contents (Elt F) → (⟨S32x131072, .f32⟩ : BufTy).Contents (Elt F)),
    StableHlo.unary main_v136 main_v137 ((transpose S131072x32 [1, 0] · transposes_S32x131072_S131072x32_1_0) : (⟨S32x131072, .f32⟩ : BufTy).Contents (Elt F) → (⟨S131072x32, .f32⟩ : BufTy).Contents (Elt F)),
    StableHlo.nullary main_c_62 (constantI S_ 32 0#32),
    StableHlo.unary main_c_62 main_v138 (broadcastInDim S2 ![] bcast_S_S2 : (⟨S_, .i32⟩ : BufTy).Contents (Elt F) → (⟨S2, .i32⟩ : BufTy).Contents (Elt F)),
    StableHlo.binary main_c_0 main_v138 main_v139 (cmpi .slt : (⟨S2, .i32⟩ : BufTy).Contents (Elt F) → (⟨S2, .i32⟩ : BufTy).Contents (Elt F) → (⟨S2, .i1⟩ : BufTy).Contents (Elt F)),
    StableHlo.nullary main_c_63 (constantI S_ 32 4#32),
    StableHlo.unary main_c_63 main_v140 (broadcastInDim S2 ![] bcast_S_S2 : (⟨S_, .i32⟩ : BufTy).Contents (Elt F) → (⟨S2, .i32⟩ : BufTy).Contents (Elt F)),
    StableHlo.binary main_c_0 main_v140 main_v141 (addi : (⟨S2, .i32⟩ : BufTy).Contents (Elt F) → (⟨S2, .i32⟩ : BufTy).Contents (Elt F) → (⟨S2, .i32⟩ : BufTy).Contents (Elt F)),
    StableHlo.ternary main_v139 main_v141 main_c_0 main_v142 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v142 main_v143 (broadcastInDim S2x1 ![0] bcast_S2_S2x1_0 : (⟨S2, .i32⟩ : BufTy).Contents (Elt F) → (⟨S2x1, .i32⟩ : BufTy).Contents (Elt F)),
    StableHlo.binary main_v8 main_v143 main_v144 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v144 main_v145 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v145 main_v146 rfl shapeCasts_S131072x1_S131072,
    StableHlo.nullary main_cst_64 (constant S_ .f32 0x3F800000#32),
    StableHlo.unary main_cst_64 main_v147 (broadcastInDim S131072 ![] bcast_S_S131072 : (⟨S_, .f32⟩ : BufTy).Contents (Elt F) → (⟨S131072, .f32⟩ : BufTy).Contents (Elt F)),
    StableHlo.binary main_v146 main_v147 main_v148 (addf : (⟨S131072, .f32⟩ : BufTy).Contents (Elt F) → (⟨S131072, .f32⟩ : BufTy).Contents (Elt F) → (⟨S131072, .f32⟩ : BufTy).Contents (Elt F)),
    StableHlo.nullary main_cst_65 (constant S_ .f32 0x3F000000#32),
    StableHlo.unary main_cst_65 main_v149 (broadcastInDim S131072 ![] bcast_S_S131072 : (⟨S_, .f32⟩ : BufTy).Contents (Elt F) → (⟨S131072, .f32⟩ : BufTy).Contents (Elt F)),
    StableHlo.binary main_v148 main_v149 main_v150 (mulf : (⟨S131072, .f32⟩ : BufTy).Contents (Elt F) → (⟨S131072, .f32⟩ : BufTy).Contents (Elt F) → (⟨S131072, .f32⟩ : BufTy).Contents (Elt F)),
    StableHlo.nullary main_cst_66 (constant S_ .f32 0x427C0000#32),
    StableHlo.unary main_cst_66 main_v151 (broadcastInDim S131072 ![] bcast_S_S131072 : (⟨S_, .f32⟩ : BufTy).Contents (Elt F) → (⟨S131072, .f32⟩ : BufTy).Contents (Elt F)),
    StableHlo.binary main_v150 main_v151 main_v152 (mulf : (⟨S131072, .f32⟩ : BufTy).Contents (Elt F) → (⟨S131072, .f32⟩ : BufTy).Contents (Elt F) → (⟨S131072, .f32⟩ : BufTy).Contents (Elt F)),
    StableHlo.unary main_v144 main_v153 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v153 main_v154 rfl shapeCasts_S131072x1_S131072,
    StableHlo.nullary main_cst_67 (constant S_ .f32 0x3F800000#32),
    StableHlo.unary main_cst_67 main_v155 (broadcastInDim S131072 ![] bcast_S_S131072 : (⟨S_, .f32⟩ : BufTy).Contents (Elt F) → (⟨S131072, .f32⟩ : BufTy).Contents (Elt F)),
    StableHlo.binary main_v154 main_v155 main_v156 (addf : (⟨S131072, .f32⟩ : BufTy).Contents (Elt F) → (⟨S131072, .f32⟩ : BufTy).Contents (Elt F) → (⟨S131072, .f32⟩ : BufTy).Contents (Elt F)),
    StableHlo.nullary main_cst_68 (constant S_ .f32 0x3F000000#32),
    StableHlo.unary main_cst_68 main_v157 (broadcastInDim S131072 ![] bcast_S_S131072 : (⟨S_, .f32⟩ : BufTy).Contents (Elt F) → (⟨S131072, .f32⟩ : BufTy).Contents (Elt F)),
    StableHlo.binary main_v156 main_v157 main_v158 (mulf : (⟨S131072, .f32⟩ : BufTy).Contents (Elt F) → (⟨S131072, .f32⟩ : BufTy).Contents (Elt F) → (⟨S131072, .f32⟩ : BufTy).Contents (Elt F)),
    StableHlo.nullary main_cst_69 (constant S_ .f32 0x427C0000#32),
    StableHlo.unary main_cst_69 main_v159 (broadcastInDim S131072 ![] bcast_S_S131072 : (⟨S_, .f32⟩ : BufTy).Contents (Elt F) → (⟨S131072, .f32⟩ : BufTy).Contents (Elt F)),
    StableHlo.binary main_v158 main_v159 main_v160 (mulf : (⟨S131072, .f32⟩ : BufTy).Contents (Elt F) → (⟨S131072, .f32⟩ : BufTy).Contents (Elt F) → (⟨S131072, .f32⟩ : BufTy).Contents (Elt F)),
    StableHlo.unary main_v152 main_v161 (Host.floor : (⟨S131072, .f32⟩ : BufTy).Contents (Elt F) → (⟨S131072, .f32⟩ : BufTy).Contents (Elt F)),
    StableHlo.unary main_v160 main_v162 (Host.floor : (⟨S131072, .f32⟩ : BufTy).Contents (Elt F) → (⟨S131072, .f32⟩ : BufTy).Contents (Elt F)),
    StableHlo.binary main_v152 main_v161 main_v163 (subf : (⟨S131072, .f32⟩ : BufTy).Contents (Elt F) → (⟨S131072, .f32⟩ : BufTy).Contents (Elt F) → (⟨S131072, .f32⟩ : BufTy).Contents (Elt F)),
    StableHlo.binary main_v160 main_v162 main_v164 (subf : (⟨S131072, .f32⟩ : BufTy).Contents (Elt F) → (⟨S131072, .f32⟩ : BufTy).Contents (Elt F) → (⟨S131072, .f32⟩ : BufTy).Contents (Elt F)),
    StableHlo.unary main_v161 main_v165 (fptosi 32 : (⟨S131072, .f32⟩ : BufTy).Contents (Elt F) → (⟨S131072, .i32⟩ : BufTy).Contents (Elt F)),
    StableHlo.nullary main_c_70 (constantI S_ 32 0#32),
    StableHlo.nullary main_c_71 (constantI S_ 32 63#32) ]
theorem w3_eq (c : Dev nD) : main_part3 (F := F) c = seq w3 := rfl
theorem w3_sub : (w3 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub ..⟩
theorem w3_fresh : (w3 : List (HloOp τ sig (Elt F))).Forall fun op => op.fresh = ∅ := by
  simp only [List.Forall]; repeat' constructor
set_option maxHeartbeats 4000000 in
theorem w3_chain : Chain 228 (w3 : List (HloOp τ sig (Elt F))) :=
  Chain.cons (stepAt_unary 228 _ _ _ rfl (by decide)) <|
  Chain.cons (stepAt_unary 229 _ _ _ rfl (by decide)) <|
  Chain.cons (stepAt_binary 230 _ _ _ _ rfl (by decide) (by decide)) <|
  Chain.cons (stepAt_binary 231 _ _ _ _ rfl (by decide) (by decide)) <|
  Chain.cons (stepAt_nullary 232 _ _ rfl) <|
  Chain.cons (stepAt_unary 233 _ _ _ rfl (by decide)) <|
  Chain.cons (stepAt_binary 234 _ _ _ _ rfl (by decide) (by decide)) <|
  Chain.cons (stepAt_unary 235 _ _ _ rfl (by decide)) <|
  Chain.cons (stepAt_unary 236 _ _ _ rfl (by decide)) <|
  Chain.cons (stepAt_binary 237 _ _ _ _ rfl (by decide) (by decide)) <|
  Chain.cons (stepAt_unary 238 _ _ _ rfl (by decide)) <|
  Chain.cons (stepAt_unary 239 _ _ _ rfl (by decide)) <|
  Chain.cons (stepAt_binary 240 _ _ _ _ rfl (by decide) (by decide)) <|
  Chain.cons (stepAt_binary 241 _ _ _ _ rfl (by decide) (by decide)) <|
  Chain.cons (stepAt_unary 242 _ _ _ rfl (by decide)) <|
  Chain.cons (stepAt_unary 243 _ _ _ rfl (by decide)) <|
  Chain.cons (stepAt_binary 244 _ _ _ _ rfl (by decide) (by decide)) <|
  Chain.cons (stepAt_unary 245 _ _ _ rfl (by decide)) <|
  Chain.cons (stepAt_unary 246 _ _ _ rfl (by decide)) <|
  Chain.cons (stepAt_binary 247 _ _ _ _ rfl (by decide) (by decide)) <|
  Chain.cons (stepAt_binary 248 _ _ _ _ rfl (by decide) (by decide)) <|
  Chain.cons (stepAt_unary 249 _ _ _ rfl (by decide)) <|
  Chain.cons (stepAt_nullary 250 _ _ rfl) <|
  Chain.cons (stepAt_unary 251 _ _ _ rfl (by decide)) <|
  Chain.cons (stepAt_binary 252 _ _ _ _ rfl (by decide) (by decide)) <|
  Chain.cons (stepAt_nullary 253 _ _ rfl) <|
  Chain.cons (stepAt_unary 254 _ _ _ rfl (by decide)) <|
  Chain.cons (stepAt_binary 255 _ _ _ _ rfl (by decide) (by decide)) <|
  Chain.cons (stepAt_ternary 256 _ _ _ _ _ rfl (by decide) (by decide) (by decide)) <|
  Chain.cons (stepAt_unary 257 _ _ _ rfl (by decide)) <|
  Chain.cons (stepAt_binary 258 _ _ _ _ rfl (by decide) (by decide)) <|
  Chain.cons (stepAt_unary 259 _ _ _ rfl (by decide)) <|
  Chain.cons (stepAt_reshape 260 _ _ _ _ rfl (by decide)) <|
  Chain.cons (stepAt_nullary 261 _ _ rfl) <|
  Chain.cons (stepAt_unary 262 _ _ _ rfl (by decide)) <|
  Chain.cons (stepAt_binary 263 _ _ _ _ rfl (by decide) (by decide)) <|
  Chain.cons (stepAt_nullary 264 _ _ rfl) <|
  Chain.cons (stepAt_unary 265 _ _ _ rfl (by decide)) <|
  Chain.cons (stepAt_binary 266 _ _ _ _ rfl (by decide) (by decide)) <|
  Chain.cons (stepAt_nullary 267 _ _ rfl) <|
  Chain.cons (stepAt_unary 268 _ _ _ rfl (by decide)) <|
  Chain.cons (stepAt_binary 269 _ _ _ _ rfl (by decide) (by decide)) <|
  Chain.cons (stepAt_unary 270 _ _ _ rfl (by decide)) <|
  Chain.cons (stepAt_reshape 271 _ _ _ _ rfl (by decide)) <|
  Chain.cons (stepAt_nullary 272 _ _ rfl) <|
  Chain.cons (stepAt_unary 273 _ _ _ rfl (by decide)) <|
  Chain.cons (stepAt_binary 274 _ _ _ _ rfl (by decide) (by decide)) <|
  Chain.cons (stepAt_nullary 275 _ _ rfl) <|
  Chain.cons (stepAt_unary 276 _ _ _ rfl (by decide)) <|
  Chain.cons (stepAt_binary 277 _ _ _ _ rfl (by decide) (by decide)) <|
  Chain.cons (stepAt_nullary 278 _ _ rfl) <|
  Chain.cons (stepAt_unary 279 _ _ _ rfl (by decide)) <|
  Chain.cons (stepAt_binary 280 _ _ _ _ rfl (by decide) (by decide)) <|
  Chain.cons (stepAt_unary 281 _ _ _ rfl (by decide)) <|
  Chain.cons (stepAt_unary 282 _ _ _ rfl (by decide)) <|
  Chain.cons (stepAt_binary 283 _ _ _ _ rfl (by decide) (by decide)) <|
  Chain.cons (stepAt_binary 284 _ _ _ _ rfl (by decide) (by decide)) <|
  Chain.cons (stepAt_unary 285 _ _ _ rfl (by decide)) <|
  Chain.cons (stepAt_nullary 286 _ _ rfl) <|
  Chain.cons (stepAt_nullary 287 _ _ rfl) <|
  Chain.nil
theorem w3_length : (w3 : List (HloOp τ sig (Elt F))).length = 60 := rfl

/-- Window 4 of @main: 80 operations, writing buffers 288 … 367. -/
abbrev w4 : List (HloOp τ sig (Elt F)) :=
  [ StableHlo.TRef.unary (.of main_c_70) main_call4.v0 id,
    StableHlo.TRef.unary main_call4.v0 main_call4.v1 (broadcastInDim S131072 ![] bcast_S_S131072),
    StableHlo.TRef.binary main_call4.v1 (.of main_v165) main_call4.v2 maxsi,
    StableHlo.TRef.unary (.of main_c_71) main_call4.v3 id,
    StableHlo.TRef.unary main_call4.v3 main_call4.v4 (broadcastInDim S131072 ![] bcast_S_S131072),
    StableHlo.TRef.binary main_call4.v4 main_call4.v2 main_call4.v5 minsi,
    StableHlo.nullary main_c_72 (constantI S_ 32 1#32),
    StableHlo.unary main_c_72 main_v167 (broadcastInDim S131072 ![] bcast_S_S131072 : (⟨S_, .i32⟩ : BufTy).Contents (Elt F) → (⟨S131072, .i32⟩ : BufTy).Contents (Elt F)),
    StableHlo.binary main_v166 main_v167 main_v168 (addi : (⟨S131072, .i32⟩ : BufTy).Contents (Elt F) → (⟨S131072, .i32⟩ : BufTy).Contents (Elt F) → (⟨S131072, .i32⟩ : BufTy).Contents (Elt F)),
    StableHlo.nullary main_c_73 (constantI S_ 32 0#32),
    StableHlo.nullary main_c_74 (constantI S_ 32 63#32),
    StableHlo.TRef.unary (.of main_c_73) main_call5.v0 id,
    StableHlo.TRef.unary main_call5.v0 main_call5.v1 (broadcastInDim S131072 ![] bcast_S_S131072),
    StableHlo.TRef.binary main_call5.v1 (.of main_v168) main_call5.v2 maxsi,
    StableHlo.TRef.unary (.of main_c_74) main_call5.v3 id,
    StableHlo.TRef.unary main_call5.v3 main_call5.v4 (broadcastInDim S131072 ![] bcast_S_S131072),
    StableHlo.TRef.binary main_call5.v4 main_call5.v2 main_call5.v5 minsi,
    StableHlo.unary main_v162 main_v170 (fptosi 32 : (⟨S131072, .f32⟩ : BufTy).Contents (Elt F) → (⟨S131072, .i32⟩ : BufTy).Contents (Elt F)),
    StableHlo.nullary main_c_75 (constantI S_ 32 0#32),
    StableHlo.nullary main_c_76 (constantI S_ 32 63#32),
    StableHlo.TRef.unary (.of main_c_75) main_call6.v0 id,
    StableHlo.TRef.unary main_call6.v0 main_call6.v1 (broadcastInDim S131072 ![] bcast_S_S131072),
    StableHlo.TRef.binary main_call6.v1 (.of main_v170) main_call6.v2 maxsi,
    StableHlo.TRef.unary (.of main_c_76) main_call6.v3 id,
    StableHlo.TRef.unary main_call6.v3 main_call6.v4 (broadcastInDim S131072 ![] bcast_S_S131072),
    StableHlo.TRef.binary main_call6.v4 main_call6.v2 main_call6.v5 minsi,
    StableHlo.nullary main_c_77 (constantI S_ 32 1#32),
    StableHlo.unary main_c_77 main_v172 (broadcastInDim S131072 ![] bcast_S_S131072 : (⟨S_, .i32⟩ : BufTy).Contents (Elt F) → (⟨S131072, .i32⟩ : BufTy).Contents (Elt F)),
    StableHlo.binary main_v171 main_v172 main_v173 (addi : (⟨S131072, .i32⟩ : BufTy).Contents (Elt F) → (⟨S131072, .i32⟩ : BufTy).Contents (Elt F) → (⟨S131072, .i32⟩ : BufTy).Contents (Elt F)),
    StableHlo.nullary main_c_78 (constantI S_ 32 0#32),
    StableHlo.nullary main_c_79 (constantI S_ 32 63#32),
    StableHlo.TRef.unary (.of main_c_78) main_call7.v0 id,
    StableHlo.TRef.unary main_call7.v0 main_call7.v1 (broadcastInDim S131072 ![] bcast_S_S131072),
    StableHlo.TRef.binary main_call7.v1 (.of main_v173) main_call7.v2 maxsi,
    StableHlo.TRef.unary (.of main_c_79) main_call7.v3 id,
    StableHlo.TRef.unary main_call7.v3 main_call7.v4 (broadcastInDim S131072 ![] bcast_S_S131072),
    StableHlo.TRef.binary main_call7.v4 main_call7.v2 main_call7.v5 minsi,
    StableHlo.nullary main_c_80 (constantI S_ 32 0#32),
    StableHlo.unary main_c_80 main_v175 (broadcastInDim S131072 ![] bcast_S_S131072 : (⟨S_, .i32⟩ : BufTy).Contents (Elt F) → (⟨S131072, .i32⟩ : BufTy).Contents (Elt F)),
    StableHlo.binary main_v171 main_v175 main_v176 (cmpi .slt : (⟨S131072, .i32⟩ : BufTy).Contents (Elt F) → (⟨S131072, .i32⟩ : BufTy).Contents (Elt F) → (⟨S131072, .i1⟩ : BufTy).Contents (Elt F)),
    StableHlo.nullary main_c_81 (constantI S_ 32 64#32),
    StableHlo.unary main_c_81 main_v177 (broadcastInDim S131072 ![] bcast_S_S131072 : (⟨S_, .i32⟩ : BufTy).Contents (Elt F) → (⟨S131072, .i32⟩ : BufTy).Contents (Elt F)),
    StableHlo.binary main_v171 main_v177 main_v178 (addi : (⟨S131072, .i32⟩ : BufTy).Contents (Elt F) → (⟨S131072, .i32⟩ : BufTy).Contents (Elt F) → (⟨S131072, .i32⟩ : BufTy).Contents (Elt F)),
    StableHlo.ternary main_v176 main_v178 main_v171 main_v179 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_82 (constantI S_ 32 0#32),
    StableHlo.unary main_c_82 main_v180 (broadcastInDim S131072 ![] bcast_S_S131072 : (⟨S_, .i32⟩ : BufTy).Contents (Elt F) → (⟨S131072, .i32⟩ : BufTy).Contents (Elt F)),
    StableHlo.binary main_v166 main_v180 main_v181 (cmpi .slt : (⟨S131072, .i32⟩ : BufTy).Contents (Elt F) → (⟨S131072, .i32⟩ : BufTy).Contents (Elt F) → (⟨S131072, .i1⟩ : BufTy).Contents (Elt F)),
    StableHlo.nullary main_c_83 (constantI S_ 32 64#32),
    StableHlo.unary main_c_83 main_v182 (broadcastInDim S131072 ![] bcast_S_S131072 : (⟨S_, .i32⟩ : BufTy).Contents (Elt F) → (⟨S131072, .i32⟩ : BufTy).Contents (Elt F)),
    StableHlo.binary main_v166 main_v182 main_v183 (addi : (⟨S131072, .i32⟩ : BufTy).Contents (Elt F) → (⟨S131072, .i32⟩ : BufTy).Contents (Elt F) → (⟨S131072, .i32⟩ : BufTy).Contents (Elt F)),
    StableHlo.ternary main_v181 main_v183 main_v166 main_v184 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v179 main_v185 (broadcastInDim S131072x1 ![0] bcast_S131072_S131072x1_0 : (⟨S131072, .i32⟩ : BufTy).Contents (Elt F) → (⟨S131072x1, .i32⟩ : BufTy).Contents (Elt F)),
    StableHlo.unary main_v184 main_v186 (broadcastInDim S131072x1 ![0] bcast_S131072_S131072x1_0 : (⟨S131072, .i32⟩ : BufTy).Contents (Elt F) → (⟨S131072x1, .i32⟩ : BufTy).Contents (Elt F)),
    StableHlo.binary main_v185 main_v186 main_v187 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg3 main_v187 main_v188 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_84 (constantI S_ 32 0#32),
    StableHlo.unary main_c_84 main_v189 (broadcastInDim S131072 ![] bcast_S_S131072 : (⟨S_, .i32⟩ : BufTy).Contents (Elt F) → (⟨S131072, .i32⟩ : BufTy).Contents (Elt F)),
    StableHlo.binary main_v171 main_v189 main_v190 (cmpi .slt : (⟨S131072, .i32⟩ : BufTy).Contents (Elt F) → (⟨S131072, .i32⟩ : BufTy).Contents (Elt F) → (⟨S131072, .i1⟩ : BufTy).Contents (Elt F)),
    StableHlo.nullary main_c_85 (constantI S_ 32 64#32),
    StableHlo.unary main_c_85 main_v191 (broadcastInDim S131072 ![] bcast_S_S131072 : (⟨S_, .i32⟩ : BufTy).Contents (Elt F) → (⟨S131072, .i32⟩ : BufTy).Contents (Elt F)),
    StableHlo.binary main_v171 main_v191 main_v192 (addi : (⟨S131072, .i32⟩ : BufTy).Contents (Elt F) → (⟨S131072, .i32⟩ : BufTy).Contents (Elt F) → (⟨S131072, .i32⟩ : BufTy).Contents (Elt F)),
    StableHlo.ternary main_v190 main_v192 main_v171 main_v193 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_86 (constantI S_ 32 0#32),
    StableHlo.unary main_c_86 main_v194 (broadcastInDim S131072 ![] bcast_S_S131072 : (⟨S_, .i32⟩ : BufTy).Contents (Elt F) → (⟨S131072, .i32⟩ : BufTy).Contents (Elt F)),
    StableHlo.binary main_v169 main_v194 main_v195 (cmpi .slt : (⟨S131072, .i32⟩ : BufTy).Contents (Elt F) → (⟨S131072, .i32⟩ : BufTy).Contents (Elt F) → (⟨S131072, .i1⟩ : BufTy).Contents (Elt F)),
    StableHlo.nullary main_c_87 (constantI S_ 32 64#32),
    StableHlo.unary main_c_87 main_v196 (broadcastInDim S131072 ![] bcast_S_S131072 : (⟨S_, .i32⟩ : BufTy).Contents (Elt F) → (⟨S131072, .i32⟩ : BufTy).Contents (Elt F)),
    StableHlo.binary main_v169 main_v196 main_v197 (addi : (⟨S131072, .i32⟩ : BufTy).Contents (Elt F) → (⟨S131072, .i32⟩ : BufTy).Contents (Elt F) → (⟨S131072, .i32⟩ : BufTy).Contents (Elt F)),
    StableHlo.ternary main_v195 main_v197 main_v169 main_v198 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v193 main_v199 (broadcastInDim S131072x1 ![0] bcast_S131072_S131072x1_0 : (⟨S131072, .i32⟩ : BufTy).Contents (Elt F) → (⟨S131072x1, .i32⟩ : BufTy).Contents (Elt F)),
    StableHlo.unary main_v198 main_v200 (broadcastInDim S131072x1 ![0] bcast_S131072_S131072x1_0 : (⟨S131072, .i32⟩ : BufTy).Contents (Elt F) → (⟨S131072x1, .i32⟩ : BufTy).Contents (Elt F)),
    StableHlo.binary main_v199 main_v200 main_v201 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg3 main_v201 main_v202 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_88 (constantI S_ 32 0#32),
    StableHlo.unary main_c_88 main_v203 (broadcastInDim S131072 ![] bcast_S_S131072 : (⟨S_, .i32⟩ : BufTy).Contents (Elt F) → (⟨S131072, .i32⟩ : BufTy).Contents (Elt F)),
    StableHlo.binary main_v174 main_v203 main_v204 (cmpi .slt : (⟨S131072, .i32⟩ : BufTy).Contents (Elt F) → (⟨S131072, .i32⟩ : BufTy).Contents (Elt F) → (⟨S131072, .i1⟩ : BufTy).Contents (Elt F)),
    StableHlo.nullary main_c_89 (constantI S_ 32 64#32),
    StableHlo.unary main_c_89 main_v205 (broadcastInDim S131072 ![] bcast_S_S131072 : (⟨S_, .i32⟩ : BufTy).Contents (Elt F) → (⟨S131072, .i32⟩ : BufTy).Contents (Elt F)),
    StableHlo.binary main_v174 main_v205 main_v206 (addi : (⟨S131072, .i32⟩ : BufTy).Contents (Elt F) → (⟨S131072, .i32⟩ : BufTy).Contents (Elt F) → (⟨S131072, .i32⟩ : BufTy).Contents (Elt F)),
    StableHlo.ternary main_v204 main_v206 main_v174 main_v207 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]
theorem w4_eq (c : Dev nD) : main_part4 (F := F) c = seq w4 := rfl
theorem w4_sub : (w4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
theorem w4_fresh : (w4 : List (HloOp τ sig (Elt F))).Forall fun op => op.fresh = ∅ := by
  simp only [List.Forall]; repeat' constructor
set_option maxHeartbeats 4000000 in
theorem w4_chain : Chain 288 (w4 : List (HloOp τ sig (Elt F))) :=
  Chain.cons (stepAt_unary 288 _ _ _ rfl (by decide)) <|
  Chain.cons (stepAt_unary 289 _ _ _ rfl (by decide)) <|
  Chain.cons (stepAt_binary 290 _ _ _ _ rfl (by decide) (by decide)) <|
  Chain.cons (stepAt_unary 291 _ _ _ rfl (by decide)) <|
  Chain.cons (stepAt_unary 292 _ _ _ rfl (by decide)) <|
  Chain.cons (stepAt_binary 293 _ _ _ _ rfl (by decide) (by decide)) <|
  Chain.cons (stepAt_nullary 294 _ _ rfl) <|
  Chain.cons (stepAt_unary 295 _ _ _ rfl (by decide)) <|
  Chain.cons (stepAt_binary 296 _ _ _ _ rfl (by decide) (by decide)) <|
  Chain.cons (stepAt_nullary 297 _ _ rfl) <|
  Chain.cons (stepAt_nullary 298 _ _ rfl) <|
  Chain.cons (stepAt_unary 299 _ _ _ rfl (by decide)) <|
  Chain.cons (stepAt_unary 300 _ _ _ rfl (by decide)) <|
  Chain.cons (stepAt_binary 301 _ _ _ _ rfl (by decide) (by decide)) <|
  Chain.cons (stepAt_unary 302 _ _ _ rfl (by decide)) <|
  Chain.cons (stepAt_unary 303 _ _ _ rfl (by decide)) <|
  Chain.cons (stepAt_binary 304 _ _ _ _ rfl (by decide) (by decide)) <|
  Chain.cons (stepAt_unary 305 _ _ _ rfl (by decide)) <|
  Chain.cons (stepAt_nullary 306 _ _ rfl) <|
  Chain.cons (stepAt_nullary 307 _ _ rfl) <|
  Chain.cons (stepAt_unary 308 _ _ _ rfl (by decide)) <|
  Chain.cons (stepAt_unary 309 _ _ _ rfl (by decide)) <|
  Chain.cons (stepAt_binary 310 _ _ _ _ rfl (by decide) (by decide)) <|
  Chain.cons (stepAt_unary 311 _ _ _ rfl (by decide)) <|
  Chain.cons (stepAt_unary 312 _ _ _ rfl (by decide)) <|
  Chain.cons (stepAt_binary 313 _ _ _ _ rfl (by decide) (by decide)) <|
  Chain.cons (stepAt_nullary 314 _ _ rfl) <|
  Chain.cons (stepAt_unary 315 _ _ _ rfl (by decide)) <|
  Chain.cons (stepAt_binary 316 _ _ _ _ rfl (by decide) (by decide)) <|
  Chain.cons (stepAt_nullary 317 _ _ rfl) <|
  Chain.cons (stepAt_nullary 318 _ _ rfl) <|
  Chain.cons (stepAt_unary 319 _ _ _ rfl (by decide)) <|
  Chain.cons (stepAt_unary 320 _ _ _ rfl (by decide)) <|
  Chain.cons (stepAt_binary 321 _ _ _ _ rfl (by decide) (by decide)) <|
  Chain.cons (stepAt_unary 322 _ _ _ rfl (by decide)) <|
  Chain.cons (stepAt_unary 323 _ _ _ rfl (by decide)) <|
  Chain.cons (stepAt_binary 324 _ _ _ _ rfl (by decide) (by decide)) <|
  Chain.cons (stepAt_nullary 325 _ _ rfl) <|
  Chain.cons (stepAt_unary 326 _ _ _ rfl (by decide)) <|
  Chain.cons (stepAt_binary 327 _ _ _ _ rfl (by decide) (by decide)) <|
  Chain.cons (stepAt_nullary 328 _ _ rfl) <|
  Chain.cons (stepAt_unary 329 _ _ _ rfl (by decide)) <|
  Chain.cons (stepAt_binary 330 _ _ _ _ rfl (by decide) (by decide)) <|
  Chain.cons (stepAt_ternary 331 _ _ _ _ _ rfl (by decide) (by decide) (by decide)) <|
  Chain.cons (stepAt_nullary 332 _ _ rfl) <|
  Chain.cons (stepAt_unary 333 _ _ _ rfl (by decide)) <|
  Chain.cons (stepAt_binary 334 _ _ _ _ rfl (by decide) (by decide)) <|
  Chain.cons (stepAt_nullary 335 _ _ rfl) <|
  Chain.cons (stepAt_unary 336 _ _ _ rfl (by decide)) <|
  Chain.cons (stepAt_binary 337 _ _ _ _ rfl (by decide) (by decide)) <|
  Chain.cons (stepAt_ternary 338 _ _ _ _ _ rfl (by decide) (by decide) (by decide)) <|
  Chain.cons (stepAt_unary 339 _ _ _ rfl (by decide)) <|
  Chain.cons (stepAt_unary 340 _ _ _ rfl (by decide)) <|
  Chain.cons (stepAt_binary 341 _ _ _ _ rfl (by decide) (by decide)) <|
  Chain.cons (stepAt_binary 342 _ _ _ _ rfl (by decide) (by decide)) <|
  Chain.cons (stepAt_nullary 343 _ _ rfl) <|
  Chain.cons (stepAt_unary 344 _ _ _ rfl (by decide)) <|
  Chain.cons (stepAt_binary 345 _ _ _ _ rfl (by decide) (by decide)) <|
  Chain.cons (stepAt_nullary 346 _ _ rfl) <|
  Chain.cons (stepAt_unary 347 _ _ _ rfl (by decide)) <|
  Chain.cons (stepAt_binary 348 _ _ _ _ rfl (by decide) (by decide)) <|
  Chain.cons (stepAt_ternary 349 _ _ _ _ _ rfl (by decide) (by decide) (by decide)) <|
  Chain.cons (stepAt_nullary 350 _ _ rfl) <|
  Chain.cons (stepAt_unary 351 _ _ _ rfl (by decide)) <|
  Chain.cons (stepAt_binary 352 _ _ _ _ rfl (by decide) (by decide)) <|
  Chain.cons (stepAt_nullary 353 _ _ rfl) <|
  Chain.cons (stepAt_unary 354 _ _ _ rfl (by decide)) <|
  Chain.cons (stepAt_binary 355 _ _ _ _ rfl (by decide) (by decide)) <|
  Chain.cons (stepAt_ternary 356 _ _ _ _ _ rfl (by decide) (by decide) (by decide)) <|
  Chain.cons (stepAt_unary 357 _ _ _ rfl (by decide)) <|
  Chain.cons (stepAt_unary 358 _ _ _ rfl (by decide)) <|
  Chain.cons (stepAt_binary 359 _ _ _ _ rfl (by decide) (by decide)) <|
  Chain.cons (stepAt_binary 360 _ _ _ _ rfl (by decide) (by decide)) <|
  Chain.cons (stepAt_nullary 361 _ _ rfl) <|
  Chain.cons (stepAt_unary 362 _ _ _ rfl (by decide)) <|
  Chain.cons (stepAt_binary 363 _ _ _ _ rfl (by decide) (by decide)) <|
  Chain.cons (stepAt_nullary 364 _ _ rfl) <|
  Chain.cons (stepAt_unary 365 _ _ _ rfl (by decide)) <|
  Chain.cons (stepAt_binary 366 _ _ _ _ rfl (by decide) (by decide)) <|
  Chain.cons (stepAt_ternary 367 _ _ _ _ _ rfl (by decide) (by decide) (by decide)) <|
  Chain.nil
theorem w4_length : (w4 : List (HloOp τ sig (Elt F))).length = 80 := rfl

/-- Window 5 of @main: 60 operations, writing buffers 368 … 427. -/
abbrev w5 : List (HloOp τ sig (Elt F)) :=
  [ StableHlo.nullary main_c_90 (constantI S_ 32 0#32),
    StableHlo.unary main_c_90 main_v208 (broadcastInDim S131072 ![] bcast_S_S131072 : (⟨S_, .i32⟩ : BufTy).Contents (Elt F) → (⟨S131072, .i32⟩ : BufTy).Contents (Elt F)),
    StableHlo.binary main_v166 main_v208 main_v209 (cmpi .slt : (⟨S131072, .i32⟩ : BufTy).Contents (Elt F) → (⟨S131072, .i32⟩ : BufTy).Contents (Elt F) → (⟨S131072, .i1⟩ : BufTy).Contents (Elt F)),
    StableHlo.nullary main_c_91 (constantI S_ 32 64#32),
    StableHlo.unary main_c_91 main_v210 (broadcastInDim S131072 ![] bcast_S_S131072 : (⟨S_, .i32⟩ : BufTy).Contents (Elt F) → (⟨S131072, .i32⟩ : BufTy).Contents (Elt F)),
    StableHlo.binary main_v166 main_v210 main_v211 (addi : (⟨S131072, .i32⟩ : BufTy).Contents (Elt F) → (⟨S131072, .i32⟩ : BufTy).Contents (Elt F) → (⟨S131072, .i32⟩ : BufTy).Contents (Elt F)),
    StableHlo.ternary main_v209 main_v211 main_v166 main_v212 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v207 main_v213 (broadcastInDim S131072x1 ![0] bcast_S131072_S131072x1_0 : (⟨S131072, .i32⟩ : BufTy).Contents (Elt F) → (⟨S131072x1, .i32⟩ : BufTy).Contents (Elt F)),
    StableHlo.unary main_v212 main_v214 (broadcastInDim S131072x1 ![0] bcast_S131072_S131072x1_0 : (⟨S131072, .i32⟩ : BufTy).Contents (Elt F) → (⟨S131072x1, .i32⟩ : BufTy).Contents (Elt F)),
    StableHlo.binary main_v213 main_v214 main_v215 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg3 main_v215 main_v216 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_92 (constantI S_ 32 0#32),
    StableHlo.unary main_c_92 main_v217 (broadcastInDim S131072 ![] bcast_S_S131072 : (⟨S_, .i32⟩ : BufTy).Contents (Elt F) → (⟨S131072, .i32⟩ : BufTy).Contents (Elt F)),
    StableHlo.binary main_v174 main_v217 main_v218 (cmpi .slt : (⟨S131072, .i32⟩ : BufTy).Contents (Elt F) → (⟨S131072, .i32⟩ : BufTy).Contents (Elt F) → (⟨S131072, .i1⟩ : BufTy).Contents (Elt F)),
    StableHlo.nullary main_c_93 (constantI S_ 32 64#32),
    StableHlo.unary main_c_93 main_v219 (broadcastInDim S131072 ![] bcast_S_S131072 : (⟨S_, .i32⟩ : BufTy).Contents (Elt F) → (⟨S131072, .i32⟩ : BufTy).Contents (Elt F)),
    StableHlo.binary main_v174 main_v219 main_v220 (addi : (⟨S131072, .i32⟩ : BufTy).Contents (Elt F) → (⟨S131072, .i32⟩ : BufTy).Contents (Elt F) → (⟨S131072, .i32⟩ : BufTy).Contents (Elt F)),
    StableHlo.ternary main_v218 main_v220 main_v174 main_v221 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_94 (constantI S_ 32 0#32),
    StableHlo.unary main_c_94 main_v222 (broadcastInDim S131072 ![] bcast_S_S131072 : (⟨S_, .i32⟩ : BufTy).Contents (Elt F) → (⟨S131072, .i32⟩ : BufTy).Contents (Elt F)),
    StableHlo.binary main_v169 main_v222 main_v223 (cmpi .slt : (⟨S131072, .i32⟩ : BufTy).Contents (Elt F) → (⟨S131072, .i32⟩ : BufTy).Contents (Elt F) → (⟨S131072, .i1⟩ : BufTy).Contents (Elt F)),
    StableHlo.nullary main_c_95 (constantI S_ 32 64#32),
    StableHlo.unary main_c_95 main_v224 (broadcastInDim S131072 ![] bcast_S_S131072 : (⟨S_, .i32⟩ : BufTy).Contents (Elt F) → (⟨S131072, .i32⟩ : BufTy).Contents (Elt F)),
    StableHlo.binary main_v169 main_v224 main_v225 (addi : (⟨S131072, .i32⟩ : BufTy).Contents (Elt F) → (⟨S131072, .i32⟩ : BufTy).Contents (Elt F) → (⟨S131072, .i32⟩ : BufTy).Contents (Elt F)),
    StableHlo.ternary main_v223 main_v225 main_v169 main_v226 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v221 main_v227 (broadcastInDim S131072x1 ![0] bcast_S131072_S131072x1_0 : (⟨S131072, .i32⟩ : BufTy).Contents (Elt F) → (⟨S131072x1, .i32⟩ : BufTy).Contents (Elt F)),
    StableHlo.unary main_v226 main_v228 (broadcastInDim S131072x1 ![0] bcast_S131072_S131072x1_0 : (⟨S131072, .i32⟩ : BufTy).Contents (Elt F) → (⟨S131072x1, .i32⟩ : BufTy).Contents (Elt F)),
    StableHlo.binary main_v227 main_v228 main_v229 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg3 main_v229 main_v230 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_cst_96 (constant S_ .f32 0x3F800000#32),
    StableHlo.unary main_cst_96 main_v231 (broadcastInDim S131072 ![] bcast_S_S131072 : (⟨S_, .f32⟩ : BufTy).Contents (Elt F) → (⟨S131072, .f32⟩ : BufTy).Contents (Elt F)),
    StableHlo.binary main_v231 main_v163 main_v232 (subf : (⟨S131072, .f32⟩ : BufTy).Contents (Elt F) → (⟨S131072, .f32⟩ : BufTy).Contents (Elt F) → (⟨S131072, .f32⟩ : BufTy).Contents (Elt F)),
    StableHlo.unary main_v232 main_v233 (broadcastInDim S1x131072 ![1] bcast_S131072_S1x131072_1 : (⟨S131072, .f32⟩ : BufTy).Contents (Elt F) → (⟨S1x131072, .f32⟩ : BufTy).Contents (Elt F)),
    StableHlo.unary main_v233 main_v234 (broadcastInDim S32x131072 ![0, 1] bcast_S1x131072_S32x131072_0_1 : (⟨S1x131072, .f32⟩ : BufTy).Contents (Elt F) → (⟨S32x131072, .f32⟩ : BufTy).Contents (Elt F)),
    StableHlo.binary main_v188 main_v234 main_v235 (mulf : (⟨S32x131072, .f32⟩ : BufTy).Contents (Elt F) → (⟨S32x131072, .f32⟩ : BufTy).Contents (Elt F) → (⟨S32x131072, .f32⟩ : BufTy).Contents (Elt F)),
    StableHlo.nullary main_cst_97 (constant S_ .f32 0x3F800000#32),
    StableHlo.unary main_cst_97 main_v236 (broadcastInDim S131072 ![] bcast_S_S131072 : (⟨S_, .f32⟩ : BufTy).Contents (Elt F) → (⟨S131072, .f32⟩ : BufTy).Contents (Elt F)),
    StableHlo.binary main_v236 main_v164 main_v237 (subf : (⟨S131072, .f32⟩ : BufTy).Contents (Elt F) → (⟨S131072, .f32⟩ : BufTy).Contents (Elt F) → (⟨S131072, .f32⟩ : BufTy).Contents (Elt F)),
    StableHlo.unary main_v237 main_v238 (broadcastInDim S1x131072 ![1] bcast_S131072_S1x131072_1 : (⟨S131072, .f32⟩ : BufTy).Contents (Elt F) → (⟨S1x131072, .f32⟩ : BufTy).Contents (Elt F)),
    StableHlo.unary main_v238 main_v239 (broadcastInDim S32x131072 ![0, 1] bcast_S1x131072_S32x131072_0_1 : (⟨S1x131072, .f32⟩ : BufTy).Contents (Elt F) → (⟨S32x131072, .f32⟩ : BufTy).Contents (Elt F)),
    StableHlo.binary main_v235 main_v239 main_v240 (mulf : (⟨S32x131072, .f32⟩ : BufTy).Contents (Elt F) → (⟨S32x131072, .f32⟩ : BufTy).Contents (Elt F) → (⟨S32x131072, .f32⟩ : BufTy).Contents (Elt F)),
    StableHlo.unary main_v163 main_v241 (broadcastInDim S1x131072 ![1] bcast_S131072_S1x131072_1 : (⟨S131072, .f32⟩ : BufTy).Contents (Elt F) → (⟨S1x131072, .f32⟩ : BufTy).Contents (Elt F)),
    StableHlo.unary main_v241 main_v242 (broadcastInDim S32x131072 ![0, 1] bcast_S1x131072_S32x131072_0_1 : (⟨S1x131072, .f32⟩ : BufTy).Contents (Elt F) → (⟨S32x131072, .f32⟩ : BufTy).Contents (Elt F)),
    StableHlo.binary main_v202 main_v242 main_v243 (mulf : (⟨S32x131072, .f32⟩ : BufTy).Contents (Elt F) → (⟨S32x131072, .f32⟩ : BufTy).Contents (Elt F) → (⟨S32x131072, .f32⟩ : BufTy).Contents (Elt F)),
    StableHlo.nullary main_cst_98 (constant S_ .f32 0x3F800000#32),
    StableHlo.unary main_cst_98 main_v244 (broadcastInDim S131072 ![] bcast_S_S131072 : (⟨S_, .f32⟩ : BufTy).Contents (Elt F) → (⟨S131072, .f32⟩ : BufTy).Contents (Elt F)),
    StableHlo.binary main_v244 main_v164 main_v245 (subf : (⟨S131072, .f32⟩ : BufTy).Contents (Elt F) → (⟨S131072, .f32⟩ : BufTy).Contents (Elt F) → (⟨S131072, .f32⟩ : BufTy).Contents (Elt F)),
    StableHlo.unary main_v245 main_v246 (broadcastInDim S1x131072 ![1] bcast_S131072_S1x131072_1 : (⟨S131072, .f32⟩ : BufTy).Contents (Elt F) → (⟨S1x131072, .f32⟩ : BufTy).Contents (Elt F)),
    StableHlo.unary main_v246 main_v247 (broadcastInDim S32x131072 ![0, 1] bcast_S1x131072_S32x131072_0_1 : (⟨S1x131072, .f32⟩ : BufTy).Contents (Elt F) → (⟨S32x131072, .f32⟩ : BufTy).Contents (Elt F)),
    StableHlo.binary main_v243 main_v247 main_v248 (mulf : (⟨S32x131072, .f32⟩ : BufTy).Contents (Elt F) → (⟨S32x131072, .f32⟩ : BufTy).Contents (Elt F) → (⟨S32x131072, .f32⟩ : BufTy).Contents (Elt F)),
    StableHlo.binary main_v240 main_v248 main_v249 (addf : (⟨S32x131072, .f32⟩ : BufTy).Contents (Elt F) → (⟨S32x131072, .f32⟩ : BufTy).Contents (Elt F) → (⟨S32x131072, .f32⟩ : BufTy).Contents (Elt F)),
    StableHlo.nullary main_cst_99 (constant S_ .f32 0x3F800000#32),
    StableHlo.unary main_cst_99 main_v250 (broadcastInDim S131072 ![] bcast_S_S131072 : (⟨S_, .f32⟩ : BufTy).Contents (Elt F) → (⟨S131072, .f32⟩ : BufTy).Contents (Elt F)),
    StableHlo.binary main_v250 main_v163 main_v251 (subf : (⟨S131072, .f32⟩ : BufTy).Contents (Elt F) → (⟨S131072, .f32⟩ : BufTy).Contents (Elt F) → (⟨S131072, .f32⟩ : BufTy).Contents (Elt F)),
    StableHlo.unary main_v251 main_v252 (broadcastInDim S1x131072 ![1] bcast_S131072_S1x131072_1 : (⟨S131072, .f32⟩ : BufTy).Contents (Elt F) → (⟨S1x131072, .f32⟩ : BufTy).Contents (Elt F)),
    StableHlo.unary main_v252 main_v253 (broadcastInDim S32x131072 ![0, 1] bcast_S1x131072_S32x131072_0_1 : (⟨S1x131072, .f32⟩ : BufTy).Contents (Elt F) → (⟨S32x131072, .f32⟩ : BufTy).Contents (Elt F)),
    StableHlo.binary main_v216 main_v253 main_v254 (mulf : (⟨S32x131072, .f32⟩ : BufTy).Contents (Elt F) → (⟨S32x131072, .f32⟩ : BufTy).Contents (Elt F) → (⟨S32x131072, .f32⟩ : BufTy).Contents (Elt F)),
    StableHlo.unary main_v164 main_v255 (broadcastInDim S1x131072 ![1] bcast_S131072_S1x131072_1 : (⟨S131072, .f32⟩ : BufTy).Contents (Elt F) → (⟨S1x131072, .f32⟩ : BufTy).Contents (Elt F)),
    StableHlo.unary main_v255 main_v256 (broadcastInDim S32x131072 ![0, 1] bcast_S1x131072_S32x131072_0_1 : (⟨S1x131072, .f32⟩ : BufTy).Contents (Elt F) → (⟨S32x131072, .f32⟩ : BufTy).Contents (Elt F)),
    StableHlo.binary main_v254 main_v256 main_v257 (mulf : (⟨S32x131072, .f32⟩ : BufTy).Contents (Elt F) → (⟨S32x131072, .f32⟩ : BufTy).Contents (Elt F) → (⟨S32x131072, .f32⟩ : BufTy).Contents (Elt F)) ]
theorem w5_eq (c : Dev nD) : main_part5 (F := F) c = seq w5 := rfl
theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem w5_fresh : (w5 : List (HloOp τ sig (Elt F))).Forall fun op => op.fresh = ∅ := by
  simp only [List.Forall]; repeat' constructor
set_option maxHeartbeats 4000000 in
theorem w5_chain : Chain 368 (w5 : List (HloOp τ sig (Elt F))) :=
  Chain.cons (stepAt_nullary 368 _ _ rfl) <|
  Chain.cons (stepAt_unary 369 _ _ _ rfl (by decide)) <|
  Chain.cons (stepAt_binary 370 _ _ _ _ rfl (by decide) (by decide)) <|
  Chain.cons (stepAt_nullary 371 _ _ rfl) <|
  Chain.cons (stepAt_unary 372 _ _ _ rfl (by decide)) <|
  Chain.cons (stepAt_binary 373 _ _ _ _ rfl (by decide) (by decide)) <|
  Chain.cons (stepAt_ternary 374 _ _ _ _ _ rfl (by decide) (by decide) (by decide)) <|
  Chain.cons (stepAt_unary 375 _ _ _ rfl (by decide)) <|
  Chain.cons (stepAt_unary 376 _ _ _ rfl (by decide)) <|
  Chain.cons (stepAt_binary 377 _ _ _ _ rfl (by decide) (by decide)) <|
  Chain.cons (stepAt_binary 378 _ _ _ _ rfl (by decide) (by decide)) <|
  Chain.cons (stepAt_nullary 379 _ _ rfl) <|
  Chain.cons (stepAt_unary 380 _ _ _ rfl (by decide)) <|
  Chain.cons (stepAt_binary 381 _ _ _ _ rfl (by decide) (by decide)) <|
  Chain.cons (stepAt_nullary 382 _ _ rfl) <|
  Chain.cons (stepAt_unary 383 _ _ _ rfl (by decide)) <|
  Chain.cons (stepAt_binary 384 _ _ _ _ rfl (by decide) (by decide)) <|
  Chain.cons (stepAt_ternary 385 _ _ _ _ _ rfl (by decide) (by decide) (by decide)) <|
  Chain.cons (stepAt_nullary 386 _ _ rfl) <|
  Chain.cons (stepAt_unary 387 _ _ _ rfl (by decide)) <|
  Chain.cons (stepAt_binary 388 _ _ _ _ rfl (by decide) (by decide)) <|
  Chain.cons (stepAt_nullary 389 _ _ rfl) <|
  Chain.cons (stepAt_unary 390 _ _ _ rfl (by decide)) <|
  Chain.cons (stepAt_binary 391 _ _ _ _ rfl (by decide) (by decide)) <|
  Chain.cons (stepAt_ternary 392 _ _ _ _ _ rfl (by decide) (by decide) (by decide)) <|
  Chain.cons (stepAt_unary 393 _ _ _ rfl (by decide)) <|
  Chain.cons (stepAt_unary 394 _ _ _ rfl (by decide)) <|
  Chain.cons (stepAt_binary 395 _ _ _ _ rfl (by decide) (by decide)) <|
  Chain.cons (stepAt_binary 396 _ _ _ _ rfl (by decide) (by decide)) <|
  Chain.cons (stepAt_nullary 397 _ _ rfl) <|
  Chain.cons (stepAt_unary 398 _ _ _ rfl (by decide)) <|
  Chain.cons (stepAt_binary 399 _ _ _ _ rfl (by decide) (by decide)) <|
  Chain.cons (stepAt_unary 400 _ _ _ rfl (by decide)) <|
  Chain.cons (stepAt_unary 401 _ _ _ rfl (by decide)) <|
  Chain.cons (stepAt_binary 402 _ _ _ _ rfl (by decide) (by decide)) <|
  Chain.cons (stepAt_nullary 403 _ _ rfl) <|
  Chain.cons (stepAt_unary 404 _ _ _ rfl (by decide)) <|
  Chain.cons (stepAt_binary 405 _ _ _ _ rfl (by decide) (by decide)) <|
  Chain.cons (stepAt_unary 406 _ _ _ rfl (by decide)) <|
  Chain.cons (stepAt_unary 407 _ _ _ rfl (by decide)) <|
  Chain.cons (stepAt_binary 408 _ _ _ _ rfl (by decide) (by decide)) <|
  Chain.cons (stepAt_unary 409 _ _ _ rfl (by decide)) <|
  Chain.cons (stepAt_unary 410 _ _ _ rfl (by decide)) <|
  Chain.cons (stepAt_binary 411 _ _ _ _ rfl (by decide) (by decide)) <|
  Chain.cons (stepAt_nullary 412 _ _ rfl) <|
  Chain.cons (stepAt_unary 413 _ _ _ rfl (by decide)) <|
  Chain.cons (stepAt_binary 414 _ _ _ _ rfl (by decide) (by decide)) <|
  Chain.cons (stepAt_unary 415 _ _ _ rfl (by decide)) <|
  Chain.cons (stepAt_unary 416 _ _ _ rfl (by decide)) <|
  Chain.cons (stepAt_binary 417 _ _ _ _ rfl (by decide) (by decide)) <|
  Chain.cons (stepAt_binary 418 _ _ _ _ rfl (by decide) (by decide)) <|
  Chain.cons (stepAt_nullary 419 _ _ rfl) <|
  Chain.cons (stepAt_unary 420 _ _ _ rfl (by decide)) <|
  Chain.cons (stepAt_binary 421 _ _ _ _ rfl (by decide) (by decide)) <|
  Chain.cons (stepAt_unary 422 _ _ _ rfl (by decide)) <|
  Chain.cons (stepAt_unary 423 _ _ _ rfl (by decide)) <|
  Chain.cons (stepAt_binary 424 _ _ _ _ rfl (by decide) (by decide)) <|
  Chain.cons (stepAt_unary 425 _ _ _ rfl (by decide)) <|
  Chain.cons (stepAt_unary 426 _ _ _ rfl (by decide)) <|
  Chain.cons (stepAt_binary 427 _ _ _ _ rfl (by decide) (by decide)) <|
  Chain.nil
theorem w5_length : (w5 : List (HloOp τ sig (Elt F))).length = 60 := rfl

/-- Window 6 of @main: 75 operations, writing buffers 428 … 502. -/
abbrev w6 : List (HloOp τ sig (Elt F)) :=
  [ StableHlo.binary main_v249 main_v257 main_v258 (addf : (⟨S32x131072, .f32⟩ : BufTy).Contents (Elt F) → (⟨S32x131072, .f32⟩ : BufTy).Contents (Elt F) → (⟨S32x131072, .f32⟩ : BufTy).Contents (Elt F)),
    StableHlo.unary main_v163 main_v259 (broadcastInDim S1x131072 ![1] bcast_S131072_S1x131072_1 : (⟨S131072, .f32⟩ : BufTy).Contents (Elt F) → (⟨S1x131072, .f32⟩ : BufTy).Contents (Elt F)),
    StableHlo.unary main_v259 main_v260 (broadcastInDim S32x131072 ![0, 1] bcast_S1x131072_S32x131072_0_1 : (⟨S1x131072, .f32⟩ : BufTy).Contents (Elt F) → (⟨S32x131072, .f32⟩ : BufTy).Contents (Elt F)),
    StableHlo.binary main_v230 main_v260 main_v261 (mulf : (⟨S32x131072, .f32⟩ : BufTy).Contents (Elt F) → (⟨S32x131072, .f32⟩ : BufTy).Contents (Elt F) → (⟨S32x131072, .f32⟩ : BufTy).Contents (Elt F)),
    StableHlo.unary main_v164 main_v262 (broadcastInDim S1x131072 ![1] bcast_S131072_S1x131072_1 : (⟨S131072, .f32⟩ : BufTy).Contents (Elt F) → (⟨S1x131072, .f32⟩ : BufTy).Contents (Elt F)),
    StableHlo.unary main_v262 main_v263 (broadcastInDim S32x131072 ![0, 1] bcast_S1x131072_S32x131072_0_1 : (⟨S1x131072, .f32⟩ : BufTy).Contents (Elt F) → (⟨S32x131072, .f32⟩ : BufTy).Contents (Elt F)),
    StableHlo.binary main_v261 main_v263 main_v264 (mulf : (⟨S32x131072, .f32⟩ : BufTy).Contents (Elt F) → (⟨S32x131072, .f32⟩ : BufTy).Contents (Elt F) → (⟨S32x131072, .f32⟩ : BufTy).Contents (Elt F)),
    StableHlo.binary main_v258 main_v264 main_v265 (addf : (⟨S32x131072, .f32⟩ : BufTy).Contents (Elt F) → (⟨S32x131072, .f32⟩ : BufTy).Contents (Elt F) → (⟨S32x131072, .f32⟩ : BufTy).Contents (Elt F)),
    StableHlo.unary main_v265 main_v266 ((transpose S131072x32 [1, 0] · transposes_S32x131072_S131072x32_1_0) : (⟨S32x131072, .f32⟩ : BufTy).Contents (Elt F) → (⟨S131072x32, .f32⟩ : BufTy).Contents (Elt F)),
    StableHlo.binary main_v137 main_v266 main_v267 (mulf : (⟨S131072x32, .f32⟩ : BufTy).Contents (Elt F) → (⟨S131072x32, .f32⟩ : BufTy).Contents (Elt F) → (⟨S131072x32, .f32⟩ : BufTy).Contents (Elt F)),
    StableHlo.nullary main_c_100 (constantI S_ 32 0#32),
    StableHlo.unary main_c_100 main_v268 (broadcastInDim S2 ![] bcast_S_S2 : (⟨S_, .i32⟩ : BufTy).Contents (Elt F) → (⟨S2, .i32⟩ : BufTy).Contents (Elt F)),
    StableHlo.binary main_c_1 main_v268 main_v269 (cmpi .slt : (⟨S2, .i32⟩ : BufTy).Contents (Elt F) → (⟨S2, .i32⟩ : BufTy).Contents (Elt F) → (⟨S2, .i1⟩ : BufTy).Contents (Elt F)),
    StableHlo.nullary main_c_101 (constantI S_ 32 4#32),
    StableHlo.unary main_c_101 main_v270 (broadcastInDim S2 ![] bcast_S_S2 : (⟨S_, .i32⟩ : BufTy).Contents (Elt F) → (⟨S2, .i32⟩ : BufTy).Contents (Elt F)),
    StableHlo.binary main_c_1 main_v270 main_v271 (addi : (⟨S2, .i32⟩ : BufTy).Contents (Elt F) → (⟨S2, .i32⟩ : BufTy).Contents (Elt F) → (⟨S2, .i32⟩ : BufTy).Contents (Elt F)),
    StableHlo.ternary main_v269 main_v271 main_c_1 main_v272 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v272 main_v273 (broadcastInDim S2x1 ![0] bcast_S2_S2x1_0 : (⟨S2, .i32⟩ : BufTy).Contents (Elt F) → (⟨S2x1, .i32⟩ : BufTy).Contents (Elt F)),
    StableHlo.binary main_v8 main_v273 main_v274 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v274 main_v275 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v275 main_v276 rfl shapeCasts_S131072x1_S131072,
    StableHlo.nullary main_cst_102 (constant S_ .f32 0x3F800000#32),
    StableHlo.unary main_cst_102 main_v277 (broadcastInDim S131072 ![] bcast_S_S131072 : (⟨S_, .f32⟩ : BufTy).Contents (Elt F) → (⟨S131072, .f32⟩ : BufTy).Contents (Elt F)),
    StableHlo.binary main_v276 main_v277 main_v278 (addf : (⟨S131072, .f32⟩ : BufTy).Contents (Elt F) → (⟨S131072, .f32⟩ : BufTy).Contents (Elt F) → (⟨S131072, .f32⟩ : BufTy).Contents (Elt F)),
    StableHlo.nullary main_cst_103 (constant S_ .f32 0x3F000000#32),
    StableHlo.unary main_cst_103 main_v279 (broadcastInDim S131072 ![] bcast_S_S131072 : (⟨S_, .f32⟩ : BufTy).Contents (Elt F) → (⟨S131072, .f32⟩ : BufTy).Contents (Elt F)),
    StableHlo.binary main_v278 main_v279 main_v280 (mulf : (⟨S131072, .f32⟩ : BufTy).Contents (Elt F) → (⟨S131072, .f32⟩ : BufTy).Contents (Elt F) → (⟨S131072, .f32⟩ : BufTy).Contents (Elt F)),
    StableHlo.nullary main_cst_104 (constant S_ .f32 0x427C0000#32),
    StableHlo.unary main_cst_104 main_v281 (broadcastInDim S131072 ![] bcast_S_S131072 : (⟨S_, .f32⟩ : BufTy).Contents (Elt F) → (⟨S131072, .f32⟩ : BufTy).Contents (Elt F)),
    StableHlo.binary main_v280 main_v281 main_v282 (mulf : (⟨S131072, .f32⟩ : BufTy).Contents (Elt F) → (⟨S131072, .f32⟩ : BufTy).Contents (Elt F) → (⟨S131072, .f32⟩ : BufTy).Contents (Elt F)),
    StableHlo.unary main_v274 main_v283 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v283 main_v284 rfl shapeCasts_S131072x1_S131072,
    StableHlo.nullary main_cst_105 (constant S_ .f32 0x3F800000#32),
    StableHlo.unary main_cst_105 main_v285 (broadcastInDim S131072 ![] bcast_S_S131072 : (⟨S_, .f32⟩ : BufTy).Contents (Elt F) → (⟨S131072, .f32⟩ : BufTy).Contents (Elt F)),
    StableHlo.binary main_v284 main_v285 main_v286 (addf : (⟨S131072, .f32⟩ : BufTy).Contents (Elt F) → (⟨S131072, .f32⟩ : BufTy).Contents (Elt F) → (⟨S131072, .f32⟩ : BufTy).Contents (Elt F)),
    StableHlo.nullary main_cst_106 (constant S_ .f32 0x3F000000#32),
    StableHlo.unary main_cst_106 main_v287 (broadcastInDim S131072 ![] bcast_S_S131072 : (⟨S_, .f32⟩ : BufTy).Contents (Elt F) → (⟨S131072, .f32⟩ : BufTy).Contents (Elt F)),
    StableHlo.binary main_v286 main_v287 main_v288 (mulf : (⟨S131072, .f32⟩ : BufTy).Contents (Elt F) → (⟨S131072, .f32⟩ : BufTy).Contents (Elt F) → (⟨S131072, .f32⟩ : BufTy).Contents (Elt F)),
    StableHlo.nullary main_cst_107 (constant S_ .f32 0x43150000#32),
    StableHlo.unary main_cst_107 main_v289 (broadcastInDim S131072 ![] bcast_S_S131072 : (⟨S_, .f32⟩ : BufTy).Contents (Elt F) → (⟨S131072, .f32⟩ : BufTy).Contents (Elt F)),
    StableHlo.binary main_v288 main_v289 main_v290 (mulf : (⟨S131072, .f32⟩ : BufTy).Contents (Elt F) → (⟨S131072, .f32⟩ : BufTy).Contents (Elt F) → (⟨S131072, .f32⟩ : BufTy).Contents (Elt F)),
    StableHlo.unary main_v282 main_v291 (Host.floor : (⟨S131072, .f32⟩ : BufTy).Contents (Elt F) → (⟨S131072, .f32⟩ : BufTy).Contents (Elt F)),
    StableHlo.unary main_v290 main_v292 (Host.floor : (⟨S131072, .f32⟩ : BufTy).Contents (Elt F) → (⟨S131072, .f32⟩ : BufTy).Contents (Elt F)),
    StableHlo.binary main_v282 main_v291 main_v293 (subf : (⟨S131072, .f32⟩ : BufTy).Contents (Elt F) → (⟨S131072, .f32⟩ : BufTy).Contents (Elt F) → (⟨S131072, .f32⟩ : BufTy).Contents (Elt F)),
    StableHlo.binary main_v290 main_v292 main_v294 (subf : (⟨S131072, .f32⟩ : BufTy).Contents (Elt F) → (⟨S131072, .f32⟩ : BufTy).Contents (Elt F) → (⟨S131072, .f32⟩ : BufTy).Contents (Elt F)),
    StableHlo.unary main_v291 main_v295 (fptosi 32 : (⟨S131072, .f32⟩ : BufTy).Contents (Elt F) → (⟨S131072, .i32⟩ : BufTy).Contents (Elt F)),
    StableHlo.nullary main_c_108 (constantI S_ 32 0#32),
    StableHlo.nullary main_c_109 (constantI S_ 32 63#32),
    StableHlo.TRef.unary (.of main_c_108) main_call8.v0 id,
    StableHlo.TRef.unary main_call8.v0 main_call8.v1 (broadcastInDim S131072 ![] bcast_S_S131072),
    StableHlo.TRef.binary main_call8.v1 (.of main_v295) main_call8.v2 maxsi,
    StableHlo.TRef.unary (.of main_c_109) main_call8.v3 id,
    StableHlo.TRef.unary main_call8.v3 main_call8.v4 (broadcastInDim S131072 ![] bcast_S_S131072),
    StableHlo.TRef.binary main_call8.v4 main_call8.v2 main_call8.v5 minsi,
    StableHlo.nullary main_c_110 (constantI S_ 32 1#32),
    StableHlo.unary main_c_110 main_v297 (broadcastInDim S131072 ![] bcast_S_S131072 : (⟨S_, .i32⟩ : BufTy).Contents (Elt F) → (⟨S131072, .i32⟩ : BufTy).Contents (Elt F)),
    StableHlo.binary main_v296 main_v297 main_v298 (addi : (⟨S131072, .i32⟩ : BufTy).Contents (Elt F) → (⟨S131072, .i32⟩ : BufTy).Contents (Elt F) → (⟨S131072, .i32⟩ : BufTy).Contents (Elt F)),
    StableHlo.nullary main_c_111 (constantI S_ 32 0#32),
    StableHlo.nullary main_c_112 (constantI S_ 32 63#32),
    StableHlo.TRef.unary (.of main_c_111) main_call9.v0 id,
    StableHlo.TRef.unary main_call9.v0 main_call9.v1 (broadcastInDim S131072 ![] bcast_S_S131072),
    StableHlo.TRef.binary main_call9.v1 (.of main_v298) main_call9.v2 maxsi,
    StableHlo.TRef.unary (.of main_c_112) main_call9.v3 id,
    StableHlo.TRef.unary main_call9.v3 main_call9.v4 (broadcastInDim S131072 ![] bcast_S_S131072),
    StableHlo.TRef.binary main_call9.v4 main_call9.v2 main_call9.v5 minsi,
    StableHlo.unary main_v292 main_v300 (fptosi 32 : (⟨S131072, .f32⟩ : BufTy).Contents (Elt F) → (⟨S131072, .i32⟩ : BufTy).Contents (Elt F)),
    StableHlo.nullary main_c_113 (constantI S_ 32 0#32),
    StableHlo.nullary main_c_114 (constantI S_ 32 149#32),
    StableHlo.TRef.unary (.of main_c_113) main_call10.v0 id,
    StableHlo.TRef.unary main_call10.v0 main_call10.v1 (broadcastInDim S131072 ![] bcast_S_S131072),
    StableHlo.TRef.binary main_call10.v1 (.of main_v300) main_call10.v2 maxsi,
    StableHlo.TRef.unary (.of main_c_114) main_call10.v3 id,
    StableHlo.TRef.unary main_call10.v3 main_call10.v4 (broadcastInDim S131072 ![] bcast_S_S131072),
    StableHlo.TRef.binary main_call10.v4 main_call10.v2 main_call10.v5 minsi,
    StableHlo.nullary main_c_115 (constantI S_ 32 1#32) ]
theorem w6_eq (c : Dev nD) : main_part6 (F := F) c = seq w6 := rfl
theorem w6_sub : (w6 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub ..⟩
theorem w6_fresh : (w6 : List (HloOp τ sig (Elt F))).Forall fun op => op.fresh = ∅ := by
  simp only [List.Forall]; repeat' constructor
set_option maxHeartbeats 4000000 in
theorem w6_chain : Chain 428 (w6 : List (HloOp τ sig (Elt F))) :=
  Chain.cons (stepAt_binary 428 _ _ _ _ rfl (by decide) (by decide)) <|
  Chain.cons (stepAt_unary 429 _ _ _ rfl (by decide)) <|
  Chain.cons (stepAt_unary 430 _ _ _ rfl (by decide)) <|
  Chain.cons (stepAt_binary 431 _ _ _ _ rfl (by decide) (by decide)) <|
  Chain.cons (stepAt_unary 432 _ _ _ rfl (by decide)) <|
  Chain.cons (stepAt_unary 433 _ _ _ rfl (by decide)) <|
  Chain.cons (stepAt_binary 434 _ _ _ _ rfl (by decide) (by decide)) <|
  Chain.cons (stepAt_binary 435 _ _ _ _ rfl (by decide) (by decide)) <|
  Chain.cons (stepAt_unary 436 _ _ _ rfl (by decide)) <|
  Chain.cons (stepAt_binary 437 _ _ _ _ rfl (by decide) (by decide)) <|
  Chain.cons (stepAt_nullary 438 _ _ rfl) <|
  Chain.cons (stepAt_unary 439 _ _ _ rfl (by decide)) <|
  Chain.cons (stepAt_binary 440 _ _ _ _ rfl (by decide) (by decide)) <|
  Chain.cons (stepAt_nullary 441 _ _ rfl) <|
  Chain.cons (stepAt_unary 442 _ _ _ rfl (by decide)) <|
  Chain.cons (stepAt_binary 443 _ _ _ _ rfl (by decide) (by decide)) <|
  Chain.cons (stepAt_ternary 444 _ _ _ _ _ rfl (by decide) (by decide) (by decide)) <|
  Chain.cons (stepAt_unary 445 _ _ _ rfl (by decide)) <|
  Chain.cons (stepAt_binary 446 _ _ _ _ rfl (by decide) (by decide)) <|
  Chain.cons (stepAt_unary 447 _ _ _ rfl (by decide)) <|
  Chain.cons (stepAt_reshape 448 _ _ _ _ rfl (by decide)) <|
  Chain.cons (stepAt_nullary 449 _ _ rfl) <|
  Chain.cons (stepAt_unary 450 _ _ _ rfl (by decide)) <|
  Chain.cons (stepAt_binary 451 _ _ _ _ rfl (by decide) (by decide)) <|
  Chain.cons (stepAt_nullary 452 _ _ rfl) <|
  Chain.cons (stepAt_unary 453 _ _ _ rfl (by decide)) <|
  Chain.cons (stepAt_binary 454 _ _ _ _ rfl (by decide) (by decide)) <|
  Chain.cons (stepAt_nullary 455 _ _ rfl) <|
  Chain.cons (stepAt_unary 456 _ _ _ rfl (by decide)) <|
  Chain.cons (stepAt_binary 457 _ _ _ _ rfl (by decide) (by decide)) <|
  Chain.cons (stepAt_unary 458 _ _ _ rfl (by decide)) <|
  Chain.cons (stepAt_reshape 459 _ _ _ _ rfl (by decide)) <|
  Chain.cons (stepAt_nullary 460 _ _ rfl) <|
  Chain.cons (stepAt_unary 461 _ _ _ rfl (by decide)) <|
  Chain.cons (stepAt_binary 462 _ _ _ _ rfl (by decide) (by decide)) <|
  Chain.cons (stepAt_nullary 463 _ _ rfl) <|
  Chain.cons (stepAt_unary 464 _ _ _ rfl (by decide)) <|
  Chain.cons (stepAt_binary 465 _ _ _ _ rfl (by decide) (by decide)) <|
  Chain.cons (stepAt_nullary 466 _ _ rfl) <|
  Chain.cons (stepAt_unary 467 _ _ _ rfl (by decide)) <|
  Chain.cons (stepAt_binary 468 _ _ _ _ rfl (by decide) (by decide)) <|
  Chain.cons (stepAt_unary 469 _ _ _ rfl (by decide)) <|
  Chain.cons (stepAt_unary 470 _ _ _ rfl (by decide)) <|
  Chain.cons (stepAt_binary 471 _ _ _ _ rfl (by decide) (by decide)) <|
  Chain.cons (stepAt_binary 472 _ _ _ _ rfl (by decide) (by decide)) <|
  Chain.cons (stepAt_unary 473 _ _ _ rfl (by decide)) <|
  Chain.cons (stepAt_nullary 474 _ _ rfl) <|
  Chain.cons (stepAt_nullary 475 _ _ rfl) <|
  Chain.cons (stepAt_unary 476 _ _ _ rfl (by decide)) <|
  Chain.cons (stepAt_unary 477 _ _ _ rfl (by decide)) <|
  Chain.cons (stepAt_binary 478 _ _ _ _ rfl (by decide) (by decide)) <|
  Chain.cons (stepAt_unary 479 _ _ _ rfl (by decide)) <|
  Chain.cons (stepAt_unary 480 _ _ _ rfl (by decide)) <|
  Chain.cons (stepAt_binary 481 _ _ _ _ rfl (by decide) (by decide)) <|
  Chain.cons (stepAt_nullary 482 _ _ rfl) <|
  Chain.cons (stepAt_unary 483 _ _ _ rfl (by decide)) <|
  Chain.cons (stepAt_binary 484 _ _ _ _ rfl (by decide) (by decide)) <|
  Chain.cons (stepAt_nullary 485 _ _ rfl) <|
  Chain.cons (stepAt_nullary 486 _ _ rfl) <|
  Chain.cons (stepAt_unary 487 _ _ _ rfl (by decide)) <|
  Chain.cons (stepAt_unary 488 _ _ _ rfl (by decide)) <|
  Chain.cons (stepAt_binary 489 _ _ _ _ rfl (by decide) (by decide)) <|
  Chain.cons (stepAt_unary 490 _ _ _ rfl (by decide)) <|
  Chain.cons (stepAt_unary 491 _ _ _ rfl (by decide)) <|
  Chain.cons (stepAt_binary 492 _ _ _ _ rfl (by decide) (by decide)) <|
  Chain.cons (stepAt_unary 493 _ _ _ rfl (by decide)) <|
  Chain.cons (stepAt_nullary 494 _ _ rfl) <|
  Chain.cons (stepAt_nullary 495 _ _ rfl) <|
  Chain.cons (stepAt_unary 496 _ _ _ rfl (by decide)) <|
  Chain.cons (stepAt_unary 497 _ _ _ rfl (by decide)) <|
  Chain.cons (stepAt_binary 498 _ _ _ _ rfl (by decide) (by decide)) <|
  Chain.cons (stepAt_unary 499 _ _ _ rfl (by decide)) <|
  Chain.cons (stepAt_unary 500 _ _ _ rfl (by decide)) <|
  Chain.cons (stepAt_binary 501 _ _ _ _ rfl (by decide) (by decide)) <|
  Chain.cons (stepAt_nullary 502 _ _ rfl) <|
  Chain.nil
theorem w6_length : (w6 : List (HloOp τ sig (Elt F))).length = 75 := rfl

/-- Window 7 of @main: 65 operations, writing buffers 503 … 567. -/
abbrev w7 : List (HloOp τ sig (Elt F)) :=
  [ StableHlo.unary main_c_115 main_v302 (broadcastInDim S131072 ![] bcast_S_S131072 : (⟨S_, .i32⟩ : BufTy).Contents (Elt F) → (⟨S131072, .i32⟩ : BufTy).Contents (Elt F)),
    StableHlo.binary main_v301 main_v302 main_v303 (addi : (⟨S131072, .i32⟩ : BufTy).Contents (Elt F) → (⟨S131072, .i32⟩ : BufTy).Contents (Elt F) → (⟨S131072, .i32⟩ : BufTy).Contents (Elt F)),
    StableHlo.nullary main_c_116 (constantI S_ 32 0#32),
    StableHlo.nullary main_c_117 (constantI S_ 32 149#32),
    StableHlo.TRef.unary (.of main_c_116) main_call11.v0 id,
    StableHlo.TRef.unary main_call11.v0 main_call11.v1 (broadcastInDim S131072 ![] bcast_S_S131072),
    StableHlo.TRef.binary main_call11.v1 (.of main_v303) main_call11.v2 maxsi,
    StableHlo.TRef.unary (.of main_c_117) main_call11.v3 id,
    StableHlo.TRef.unary main_call11.v3 main_call11.v4 (broadcastInDim S131072 ![] bcast_S_S131072),
    StableHlo.TRef.binary main_call11.v4 main_call11.v2 main_call11.v5 minsi,
    StableHlo.nullary main_c_118 (constantI S_ 32 0#32),
    StableHlo.unary main_c_118 main_v305 (broadcastInDim S131072 ![] bcast_S_S131072 : (⟨S_, .i32⟩ : BufTy).Contents (Elt F) → (⟨S131072, .i32⟩ : BufTy).Contents (Elt F)),
    StableHlo.binary main_v301 main_v305 main_v306 (cmpi .slt : (⟨S131072, .i32⟩ : BufTy).Contents (Elt F) → (⟨S131072, .i32⟩ : BufTy).Contents (Elt F) → (⟨S131072, .i1⟩ : BufTy).Contents (Elt F)),
    StableHlo.nullary main_c_119 (constantI S_ 32 150#32),
    StableHlo.unary main_c_119 main_v307 (broadcastInDim S131072 ![] bcast_S_S131072 : (⟨S_, .i32⟩ : BufTy).Contents (Elt F) → (⟨S131072, .i32⟩ : BufTy).Contents (Elt F)),
    StableHlo.binary main_v301 main_v307 main_v308 (addi : (⟨S131072, .i32⟩ : BufTy).Contents (Elt F) → (⟨S131072, .i32⟩ : BufTy).Contents (Elt F) → (⟨S131072, .i32⟩ : BufTy).Contents (Elt F)),
    StableHlo.ternary main_v306 main_v308 main_v301 main_v309 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_120 (constantI S_ 32 0#32),
    StableHlo.unary main_c_120 main_v310 (broadcastInDim S131072 ![] bcast_S_S131072 : (⟨S_, .i32⟩ : BufTy).Contents (Elt F) → (⟨S131072, .i32⟩ : BufTy).Contents (Elt F)),
    StableHlo.binary main_v296 main_v310 main_v311 (cmpi .slt : (⟨S131072, .i32⟩ : BufTy).Contents (Elt F) → (⟨S131072, .i32⟩ : BufTy).Contents (Elt F) → (⟨S131072, .i1⟩ : BufTy).Contents (Elt F)),
    StableHlo.nullary main_c_121 (constantI S_ 32 64#32),
    StableHlo.unary main_c_121 main_v312 (broadcastInDim S131072 ![] bcast_S_S131072 : (⟨S_, .i32⟩ : BufTy).Contents (Elt F) → (⟨S131072, .i32⟩ : BufTy).Contents (Elt F)),
    StableHlo.binary main_v296 main_v312 main_v313 (addi : (⟨S131072, .i32⟩ : BufTy).Contents (Elt F) → (⟨S131072, .i32⟩ : BufTy).Contents (Elt F) → (⟨S131072, .i32⟩ : BufTy).Contents (Elt F)),
    StableHlo.ternary main_v311 main_v313 main_v296 main_v314 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v309 main_v315 (broadcastInDim S131072x1 ![0] bcast_S131072_S131072x1_0 : (⟨S131072, .i32⟩ : BufTy).Contents (Elt F) → (⟨S131072x1, .i32⟩ : BufTy).Contents (Elt F)),
    StableHlo.unary main_v314 main_v316 (broadcastInDim S131072x1 ![0] bcast_S131072_S131072x1_0 : (⟨S131072, .i32⟩ : BufTy).Contents (Elt F) → (⟨S131072x1, .i32⟩ : BufTy).Contents (Elt F)),
    StableHlo.binary main_v315 main_v316 main_v317 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg4 main_v317 main_v318 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_122 (constantI S_ 32 0#32),
    StableHlo.unary main_c_122 main_v319 (broadcastInDim S131072 ![] bcast_S_S131072 : (⟨S_, .i32⟩ : BufTy).Contents (Elt F) → (⟨S131072, .i32⟩ : BufTy).Contents (Elt F)),
    StableHlo.binary main_v301 main_v319 main_v320 (cmpi .slt : (⟨S131072, .i32⟩ : BufTy).Contents (Elt F) → (⟨S131072, .i32⟩ : BufTy).Contents (Elt F) → (⟨S131072, .i1⟩ : BufTy).Contents (Elt F)),
    StableHlo.nullary main_c_123 (constantI S_ 32 150#32),
    StableHlo.unary main_c_123 main_v321 (broadcastInDim S131072 ![] bcast_S_S131072 : (⟨S_, .i32⟩ : BufTy).Contents (Elt F) → (⟨S131072, .i32⟩ : BufTy).Contents (Elt F)),
    StableHlo.binary main_v301 main_v321 main_v322 (addi : (⟨S131072, .i32⟩ : BufTy).Contents (Elt F) → (⟨S131072, .i32⟩ : BufTy).Contents (Elt F) → (⟨S131072, .i32⟩ : BufTy).Contents (Elt F)),
    StableHlo.ternary main_v320 main_v322 main_v301 main_v323 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_124 (constantI S_ 32 0#32),
    StableHlo.unary main_c_124 main_v324 (broadcastInDim S131072 ![] bcast_S_S131072 : (⟨S_, .i32⟩ : BufTy).Contents (Elt F) → (⟨S131072, .i32⟩ : BufTy).Contents (Elt F)),
    StableHlo.binary main_v299 main_v324 main_v325 (cmpi .slt : (⟨S131072, .i32⟩ : BufTy).Contents (Elt F) → (⟨S131072, .i32⟩ : BufTy).Contents (Elt F) → (⟨S131072, .i1⟩ : BufTy).Contents (Elt F)),
    StableHlo.nullary main_c_125 (constantI S_ 32 64#32),
    StableHlo.unary main_c_125 main_v326 (broadcastInDim S131072 ![] bcast_S_S131072 : (⟨S_, .i32⟩ : BufTy).Contents (Elt F) → (⟨S131072, .i32⟩ : BufTy).Contents (Elt F)),
    StableHlo.binary main_v299 main_v326 main_v327 (addi : (⟨S131072, .i32⟩ : BufTy).Contents (Elt F) → (⟨S131072, .i32⟩ : BufTy).Contents (Elt F) → (⟨S131072, .i32⟩ : BufTy).Contents (Elt F)),
    StableHlo.ternary main_v325 main_v327 main_v299 main_v328 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v323 main_v329 (broadcastInDim S131072x1 ![0] bcast_S131072_S131072x1_0 : (⟨S131072, .i32⟩ : BufTy).Contents (Elt F) → (⟨S131072x1, .i32⟩ : BufTy).Contents (Elt F)),
    StableHlo.unary main_v328 main_v330 (broadcastInDim S131072x1 ![0] bcast_S131072_S131072x1_0 : (⟨S131072, .i32⟩ : BufTy).Contents (Elt F) → (⟨S131072x1, .i32⟩ : BufTy).Contents (Elt F)),
    StableHlo.binary main_v329 main_v330 main_v331 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg4 main_v331 main_v332 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_126 (constantI S_ 32 0#32),
    StableHlo.unary main_c_126 main_v333 (broadcastInDim S131072 ![] bcast_S_S131072 : (⟨S_, .i32⟩ : BufTy).Contents (Elt F) → (⟨S131072, .i32⟩ : BufTy).Contents (Elt F)),
    StableHlo.binary main_v304 main_v333 main_v334 (cmpi .slt : (⟨S131072, .i32⟩ : BufTy).Contents (Elt F) → (⟨S131072, .i32⟩ : BufTy).Contents (Elt F) → (⟨S131072, .i1⟩ : BufTy).Contents (Elt F)),
    StableHlo.nullary main_c_127 (constantI S_ 32 150#32),
    StableHlo.unary main_c_127 main_v335 (broadcastInDim S131072 ![] bcast_S_S131072 : (⟨S_, .i32⟩ : BufTy).Contents (Elt F) → (⟨S131072, .i32⟩ : BufTy).Contents (Elt F)),
    StableHlo.binary main_v304 main_v335 main_v336 (addi : (⟨S131072, .i32⟩ : BufTy).Contents (Elt F) → (⟨S131072, .i32⟩ : BufTy).Contents (Elt F) → (⟨S131072, .i32⟩ : BufTy).Contents (Elt F)),
    StableHlo.ternary main_v334 main_v336 main_v304 main_v337 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_128 (constantI S_ 32 0#32),
    StableHlo.unary main_c_128 main_v338 (broadcastInDim S131072 ![] bcast_S_S131072 : (⟨S_, .i32⟩ : BufTy).Contents (Elt F) → (⟨S131072, .i32⟩ : BufTy).Contents (Elt F)),
    StableHlo.binary main_v296 main_v338 main_v339 (cmpi .slt : (⟨S131072, .i32⟩ : BufTy).Contents (Elt F) → (⟨S131072, .i32⟩ : BufTy).Contents (Elt F) → (⟨S131072, .i1⟩ : BufTy).Contents (Elt F)),
    StableHlo.nullary main_c_129 (constantI S_ 32 64#32),
    StableHlo.unary main_c_129 main_v340 (broadcastInDim S131072 ![] bcast_S_S131072 : (⟨S_, .i32⟩ : BufTy).Contents (Elt F) → (⟨S131072, .i32⟩ : BufTy).Contents (Elt F)),
    StableHlo.binary main_v296 main_v340 main_v341 (addi : (⟨S131072, .i32⟩ : BufTy).Contents (Elt F) → (⟨S131072, .i32⟩ : BufTy).Contents (Elt F) → (⟨S131072, .i32⟩ : BufTy).Contents (Elt F)),
    StableHlo.ternary main_v339 main_v341 main_v296 main_v342 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v337 main_v343 (broadcastInDim S131072x1 ![0] bcast_S131072_S131072x1_0 : (⟨S131072, .i32⟩ : BufTy).Contents (Elt F) → (⟨S131072x1, .i32⟩ : BufTy).Contents (Elt F)),
    StableHlo.unary main_v342 main_v344 (broadcastInDim S131072x1 ![0] bcast_S131072_S131072x1_0 : (⟨S131072, .i32⟩ : BufTy).Contents (Elt F) → (⟨S131072x1, .i32⟩ : BufTy).Contents (Elt F)),
    StableHlo.binary main_v343 main_v344 main_v345 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg4 main_v345 main_v346 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_130 (constantI S_ 32 0#32) ]
theorem w7_eq (c : Dev nD) : main_part7 (F := F) c = seq w7 := rfl
theorem w7_sub : (w7 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub ..⟩
theorem w7_fresh : (w7 : List (HloOp τ sig (Elt F))).Forall fun op => op.fresh = ∅ := by
  simp only [List.Forall]; repeat' constructor
set_option maxHeartbeats 4000000 in
theorem w7_chain : Chain 503 (w7 : List (HloOp τ sig (Elt F))) :=
  Chain.cons (stepAt_unary 503 _ _ _ rfl (by decide)) <|
  Chain.cons (stepAt_binary 504 _ _ _ _ rfl (by decide) (by decide)) <|
  Chain.cons (stepAt_nullary 505 _ _ rfl) <|
  Chain.cons (stepAt_nullary 506 _ _ rfl) <|
  Chain.cons (stepAt_unary 507 _ _ _ rfl (by decide)) <|
  Chain.cons (stepAt_unary 508 _ _ _ rfl (by decide)) <|
  Chain.cons (stepAt_binary 509 _ _ _ _ rfl (by decide) (by decide)) <|
  Chain.cons (stepAt_unary 510 _ _ _ rfl (by decide)) <|
  Chain.cons (stepAt_unary 511 _ _ _ rfl (by decide)) <|
  Chain.cons (stepAt_binary 512 _ _ _ _ rfl (by decide) (by decide)) <|
  Chain.cons (stepAt_nullary 513 _ _ rfl) <|
  Chain.cons (stepAt_unary 514 _ _ _ rfl (by decide)) <|
  Chain.cons (stepAt_binary 515 _ _ _ _ rfl (by decide) (by decide)) <|
  Chain.cons (stepAt_nullary 516 _ _ rfl) <|
  Chain.cons (stepAt_unary 517 _ _ _ rfl (by decide)) <|
  Chain.cons (stepAt_binary 518 _ _ _ _ rfl (by decide) (by decide)) <|
  Chain.cons (stepAt_ternary 519 _ _ _ _ _ rfl (by decide) (by decide) (by decide)) <|
  Chain.cons (stepAt_nullary 520 _ _ rfl) <|
  Chain.cons (stepAt_unary 521 _ _ _ rfl (by decide)) <|
  Chain.cons (stepAt_binary 522 _ _ _ _ rfl (by decide) (by decide)) <|
  Chain.cons (stepAt_nullary 523 _ _ rfl) <|
  Chain.cons (stepAt_unary 524 _ _ _ rfl (by decide)) <|
  Chain.cons (stepAt_binary 525 _ _ _ _ rfl (by decide) (by decide)) <|
  Chain.cons (stepAt_ternary 526 _ _ _ _ _ rfl (by decide) (by decide) (by decide)) <|
  Chain.cons (stepAt_unary 527 _ _ _ rfl (by decide)) <|
  Chain.cons (stepAt_unary 528 _ _ _ rfl (by decide)) <|
  Chain.cons (stepAt_binary 529 _ _ _ _ rfl (by decide) (by decide)) <|
  Chain.cons (stepAt_binary 530 _ _ _ _ rfl (by decide) (by decide)) <|
  Chain.cons (stepAt_nullary 531 _ _ rfl) <|
  Chain.cons (stepAt_unary 532 _ _ _ rfl (by decide)) <|
  Chain.cons (stepAt_binary 533 _ _ _ _ rfl (by decide) (by decide)) <|
  Chain.cons (stepAt_nullary 534 _ _ rfl) <|
  Chain.cons (stepAt_unary 535 _ _ _ rfl (by decide)) <|
  Chain.cons (stepAt_binary 536 _ _ _ _ rfl (by decide) (by decide)) <|
  Chain.cons (stepAt_ternary 537 _ _ _ _ _ rfl (by decide) (by decide) (by decide)) <|
  Chain.cons (stepAt_nullary 538 _ _ rfl) <|
  Chain.cons (stepAt_unary 539 _ _ _ rfl (by decide)) <|
  Chain.cons (stepAt_binary 540 _ _ _ _ rfl (by decide) (by decide)) <|
  Chain.cons (stepAt_nullary 541 _ _ rfl) <|
  Chain.cons (stepAt_unary 542 _ _ _ rfl (by decide)) <|
  Chain.cons (stepAt_binary 543 _ _ _ _ rfl (by decide) (by decide)) <|
  Chain.cons (stepAt_ternary 544 _ _ _ _ _ rfl (by decide) (by decide) (by decide)) <|
  Chain.cons (stepAt_unary 545 _ _ _ rfl (by decide)) <|
  Chain.cons (stepAt_unary 546 _ _ _ rfl (by decide)) <|
  Chain.cons (stepAt_binary 547 _ _ _ _ rfl (by decide) (by decide)) <|
  Chain.cons (stepAt_binary 548 _ _ _ _ rfl (by decide) (by decide)) <|
  Chain.cons (stepAt_nullary 549 _ _ rfl) <|
  Chain.cons (stepAt_unary 550 _ _ _ rfl (by decide)) <|
  Chain.cons (stepAt_binary 551 _ _ _ _ rfl (by decide) (by decide)) <|
  Chain.cons (stepAt_nullary 552 _ _ rfl) <|
  Chain.cons (stepAt_unary 553 _ _ _ rfl (by decide)) <|
  Chain.cons (stepAt_binary 554 _ _ _ _ rfl (by decide) (by decide)) <|
  Chain.cons (stepAt_ternary 555 _ _ _ _ _ rfl (by decide) (by decide) (by decide)) <|
  Chain.cons (stepAt_nullary 556 _ _ rfl) <|
  Chain.cons (stepAt_unary 557 _ _ _ rfl (by decide)) <|
  Chain.cons (stepAt_binary 558 _ _ _ _ rfl (by decide) (by decide)) <|
  Chain.cons (stepAt_nullary 559 _ _ rfl) <|
  Chain.cons (stepAt_unary 560 _ _ _ rfl (by decide)) <|
  Chain.cons (stepAt_binary 561 _ _ _ _ rfl (by decide) (by decide)) <|
  Chain.cons (stepAt_ternary 562 _ _ _ _ _ rfl (by decide) (by decide) (by decide)) <|
  Chain.cons (stepAt_unary 563 _ _ _ rfl (by decide)) <|
  Chain.cons (stepAt_unary 564 _ _ _ rfl (by decide)) <|
  Chain.cons (stepAt_binary 565 _ _ _ _ rfl (by decide) (by decide)) <|
  Chain.cons (stepAt_binary 566 _ _ _ _ rfl (by decide) (by decide)) <|
  Chain.cons (stepAt_nullary 567 _ _ rfl) <|
  Chain.nil
theorem w7_length : (w7 : List (HloOp τ sig (Elt F))).length = 65 := rfl

end Cert.ReferenceIdeal.Ops

end
-- ==== Proof.HostAt.lean ====
/-
  One element's fact out of a fact about every element of a list (the element named by its position), and the equations of
  a called function's operations: such an operation is stated over typed references, and its equation reads the written
  buffer, seen at the reference's type, as the operation's function of the operand buffers seen at theirs.
-/
import proofs.«133805_j10187662426200_2_alg».proof.Proof.HostChain

noncomputable section

namespace Cert.HostFold

open Idealize.ShloMosaic Idealize.ShloMosaic.StableHlo Idealize.SL.Sem

/-- The fact about the element at position `i` of a list, from the fact about all its elements. -/
theorem at_ {α : Type} {P : α → Prop} {l : List α} (h : l.Forall P) {i : Nat} {a : α} (e : l[i]? = some a) : P a :=
  List.forall_iff_forall_mem.mp h a (List.mem_of_getElem? e)

variable {τ : Topo} {sig : RefSig} {Val : EltTy → Type}

/-- Seen at the reference's type and back, contents are unchanged. -/
theorem ofBuf_toBuf {T : BufTy} (y : TRef sig T) (v : T.Contents Val) : y.ofBuf (y.toBuf v) = v := by
  unfold TRef.ofBuf TRef.toBuf
  rw [cast_cast, cast_eq]

theorem eqT0 {Ty : BufTy} {y : TRef sig Ty} {v : Ty.Contents Val} {F : Valuation τ sig Val}
    (h : ∀ b ∈ (TRef.nullary (τ := τ) y v).writes, F b = (TRef.nullary (τ := τ) y v).result F b) :
    y.ofBuf (F (Proc.devRef .tc y.ref)) = v := by
  rw [eq0 h, ofBuf_toBuf]

theorem eqT1 {Tx Ty : BufTy} {x : TRef sig Tx} {y : TRef sig Ty} {f : Tx.Contents Val → Ty.Contents Val} {F : Valuation τ sig Val}
    (h : ∀ b ∈ (TRef.unary (τ := τ) x y f).writes, F b = (TRef.unary (τ := τ) x y f).result F b) :
    y.ofBuf (F (Proc.devRef .tc y.ref)) = f (x.ofBuf (F (Proc.devRef .tc x.ref))) := by
  rw [eq1 h, ofBuf_toBuf]

theorem eqT2 {Ta Tb Ty : BufTy} {a : TRef sig Ta} {b : TRef sig Tb} {y : TRef sig Ty}
    {f : Ta.Contents Val → Tb.Contents Val → Ty.Contents Val} {F : Valuation τ sig Val}
    (h : ∀ b' ∈ (TRef.binary (τ := τ) a b y f).writes, F b' = (TRef.binary (τ := τ) a b y f).result F b') :
    y.ofBuf (F (Proc.devRef .tc y.ref)) = f (a.ofBuf (F (Proc.devRef .tc a.ref))) (b.ofBuf (F (Proc.devRef .tc b.ref))) := by
  rw [eq2 h, ofBuf_toBuf]

end Cert.HostFold

end
-- ==== Proof.SimHd.lean ====
/- Operations 0 … 34 of the one program and 0 … 34 of the other apply the same functions to corresponding
   buffers. If both programs' final contents satisfy their own lines' equations and agree on the buffers these operations
   read from outside, they agree on what these operations write: one congruence per operation, in program order. -/
import proofs.«133805_j10187662426200_2_alg».proof.Proof.KIStretch0
import proofs.«133805_j10187662426200_2_alg».proof.Proof.RefOps0
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem Hd (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0 : List (HloOp Cert.KernelIdeal.τ Cert.KernelIdeal.sig (Elt F))).Forall fun op => ∀ b ∈ op.writes, Φ₁ b = op.result Φ₁ b)
    (fb0 : (Cert.ReferenceIdeal.Ops.w0 : List (HloOp Cert.ReferenceIdeal.τ Cert.ReferenceIdeal.sig (Elt F))).Forall fun op => ∀ b ∈ op.writes, Φ₂ b = op.result Φ₂ b)
    (x0 : @Eq ((⟨Cert.KernelIdeal.S4096x32x3, .f32⟩ : BufTy).Contents (Elt F)) (Φ₁ (Proc.devRef .tc Cert.KernelIdeal.main_arg0)) (Φ₂ (Proc.devRef .tc Cert.ReferenceIdeal.main_arg0)))
    (x1 : @Eq ((⟨Cert.KernelIdeal.S4096, .f32⟩ : BufTy).Contents (Elt F)) (Φ₁ (Proc.devRef .tc Cert.KernelIdeal.main_arg1)) (Φ₂ (Proc.devRef .tc Cert.ReferenceIdeal.main_arg1)))
    : @Eq ((⟨Cert.KernelIdeal.S131072x4, .f32⟩ : BufTy).Contents (Elt F)) (Φ₁ (Proc.devRef .tc Cert.KernelIdeal.main_v8)) (Φ₂ (Proc.devRef .tc Cert.ReferenceIdeal.main_v8)) ∧ @Eq ((⟨Cert.KernelIdeal.S2, .i32⟩ : BufTy).Contents (Elt F)) (Φ₁ (Proc.devRef .tc Cert.KernelIdeal.main_c)) (Φ₂ (Proc.devRef .tc Cert.ReferenceIdeal.main_c)) ∧ @Eq ((⟨Cert.KernelIdeal.S2, .i32⟩ : BufTy).Contents (Elt F)) (Φ₁ (Proc.devRef .tc Cert.KernelIdeal.main_c_0)) (Φ₂ (Proc.devRef .tc Cert.ReferenceIdeal.main_c_0)) ∧ @Eq ((⟨Cert.KernelIdeal.S2, .i32⟩ : BufTy).Contents (Elt F)) (Φ₁ (Proc.devRef .tc Cert.KernelIdeal.main_c_1)) (Φ₂ (Proc.devRef .tc Cert.ReferenceIdeal.main_c_1)) ∧ @Eq ((⟨Cert.KernelIdeal.S2, .i32⟩ : BufTy).Contents (Elt F)) (Φ₁ (Proc.devRef .tc Cert.KernelIdeal.main_c_2)) (Φ₂ (Proc.devRef .tc Cert.ReferenceIdeal.main_c_2)) ∧ @Eq ((⟨Cert.KernelIdeal.S2, .i32⟩ : BufTy).Contents (Elt F)) (Φ₁ (Proc.devRef .tc Cert.KernelIdeal.main_c_3)) (Φ₂ (Proc.devRef .tc Cert.ReferenceIdeal.main_c_3)) ∧ @Eq ((⟨Cert.KernelIdeal.S2, .i32⟩ : BufTy).Contents (Elt F)) (Φ₁ (Proc.devRef .tc Cert.KernelIdeal.main_c_4)) (Φ₂ (Proc.devRef .tc Cert.ReferenceIdeal.main_c_4)) ∧ @Eq ((⟨Cert.KernelIdeal.S2, .i32⟩ : BufTy).Contents (Elt F)) (Φ₁ (Proc.devRef .tc Cert.KernelIdeal.main_c_5)) (Φ₂ (Proc.devRef .tc Cert.ReferenceIdeal.main_c_5)) ∧ @Eq ((⟨Cert.KernelIdeal.S2, .i32⟩ : BufTy).Contents (Elt F)) (Φ₁ (Proc.devRef .tc Cert.KernelIdeal.main_c_6)) (Φ₂ (Proc.devRef .tc Cert.ReferenceIdeal.main_c_6)) ∧ @Eq ((⟨Cert.KernelIdeal.S2, .i32⟩ : BufTy).Contents (Elt F)) (Φ₁ (Proc.devRef .tc Cert.KernelIdeal.main_c_7)) (Φ₂ (Proc.devRef .tc Cert.ReferenceIdeal.main_c_7)) ∧ @Eq ((⟨Cert.KernelIdeal.S2, .i32⟩ : BufTy).Contents (Elt F)) (Φ₁ (Proc.devRef .tc Cert.KernelIdeal.main_c_8)) (Φ₂ (Proc.devRef .tc Cert.ReferenceIdeal.main_c_8)) ∧ @Eq ((⟨Cert.KernelIdeal.S2, .i32⟩ : BufTy).Contents (Elt F)) (Φ₁ (Proc.devRef .tc Cert.KernelIdeal.main_c_9)) (Φ₂ (Proc.devRef .tc Cert.ReferenceIdeal.main_c_9)) ∧ @Eq ((⟨Cert.KernelIdeal.S2, .i32⟩ : BufTy).Contents (Elt F)) (Φ₁ (Proc.devRef .tc Cert.KernelIdeal.main_c_10)) (Φ₂ (Proc.devRef .tc Cert.ReferenceIdeal.main_c_10)) ∧ @Eq ((⟨Cert.KernelIdeal.S2, .i32⟩ : BufTy).Contents (Elt F)) (Φ₁ (Proc.devRef .tc Cert.KernelIdeal.main_c_11)) (Φ₂ (Proc.devRef .tc Cert.ReferenceIdeal.main_c_11)) ∧ @Eq ((⟨Cert.KernelIdeal.S2, .i32⟩ : BufTy).Contents (Elt F)) (Φ₁ (Proc.devRef .tc Cert.KernelIdeal.main_c_12)) (Φ₂ (Proc.devRef .tc Cert.ReferenceIdeal.main_c_12)) ∧ @Eq ((⟨Cert.KernelIdeal.S2, .i32⟩ : BufTy).Contents (Elt F)) (Φ₁ (Proc.devRef .tc Cert.KernelIdeal.main_c_13)) (Φ₂ (Proc.devRef .tc Cert.ReferenceIdeal.main_c_13)) ∧ @Eq ((⟨Cert.KernelIdeal.S2, .i32⟩ : BufTy).Contents (Elt F)) (Φ₁ (Proc.devRef .tc Cert.KernelIdeal.main_c_14)) (Φ₂ (Proc.devRef .tc Cert.ReferenceIdeal.main_c_14)) ∧ @Eq ((⟨Cert.KernelIdeal.S2, .i32⟩ : BufTy).Contents (Elt F)) (Φ₁ (Proc.devRef .tc Cert.KernelIdeal.main_c_15)) (Φ₂ (Proc.devRef .tc Cert.ReferenceIdeal.main_c_15)) ∧ @Eq ((⟨Cert.KernelIdeal.S2, .i32⟩ : BufTy).Contents (Elt F)) (Φ₁ (Proc.devRef .tc Cert.KernelIdeal.main_c_16)) (Φ₂ (Proc.devRef .tc Cert.ReferenceIdeal.main_c_16)) ∧ @Eq ((⟨Cert.KernelIdeal.S2, .i32⟩ : BufTy).Contents (Elt F)) (Φ₁ (Proc.devRef .tc Cert.KernelIdeal.main_c_17)) (Φ₂ (Proc.devRef .tc Cert.ReferenceIdeal.main_c_17)) ∧ @Eq ((⟨Cert.KernelIdeal.S2, .i32⟩ : BufTy).Contents (Elt F)) (Φ₁ (Proc.devRef .tc Cert.KernelIdeal.main_c_18)) (Φ₂ (Proc.devRef .tc Cert.ReferenceIdeal.main_c_18)) ∧ @Eq ((⟨Cert.KernelIdeal.S2, .i32⟩ : BufTy).Contents (Elt F)) (Φ₁ (Proc.devRef .tc Cert.KernelIdeal.main_c_19)) (Φ₂ (Proc.devRef .tc Cert.ReferenceIdeal.main_c_19)) ∧ @Eq ((⟨Cert.KernelIdeal.S2, .i32⟩ : BufTy).Contents (Elt F)) (Φ₁ (Proc.devRef .tc Cert.KernelIdeal.main_c_20)) (Φ₂ (Proc.devRef .tc Cert.ReferenceIdeal.main_c_20)) ∧ @Eq ((⟨Cert.KernelIdeal.S2, .i32⟩ : BufTy).Contents (Elt F)) (Φ₁ (Proc.devRef .tc Cert.KernelIdeal.main_c_21)) (Φ₂ (Proc.devRef .tc Cert.ReferenceIdeal.main_c_21)) ∧ @Eq ((⟨Cert.KernelIdeal.S2, .i32⟩ : BufTy).Contents (Elt F)) (Φ₁ (Proc.devRef .tc Cert.KernelIdeal.main_c_22)) (Φ₂ (Proc.devRef .tc Cert.ReferenceIdeal.main_c_22)) := by
  have e0 : @Eq ((⟨Cert.KernelIdeal.S2, .i32⟩ : BufTy).Contents (Elt F)) (Φ₁ (Proc.devRef .tc Cert.KernelIdeal.main_c)) (Φ₂ (Proc.devRef .tc Cert.ReferenceIdeal.main_c)) := step0 (β := ((⟨Cert.KernelIdeal.S2, .i32⟩ : BufTy).Contents (Elt F))) (eq0 (at_ fa0 (i := 0) rfl) :) (eq0 (at_ fb0 (i := 0) rfl) :)
  have e1 : @Eq ((⟨Cert.KernelIdeal.S2, .i32⟩ : BufTy).Contents (Elt F)) (Φ₁ (Proc.devRef .tc Cert.KernelIdeal.main_c_0)) (Φ₂ (Proc.devRef .tc Cert.ReferenceIdeal.main_c_0)) := step0 (β := ((⟨Cert.KernelIdeal.S2, .i32⟩ : BufTy).Contents (Elt F))) (eq0 (at_ fa0 (i := 1) rfl) :) (eq0 (at_ fb0 (i := 1) rfl) :)
  have e2 : @Eq ((⟨Cert.KernelIdeal.S2, .i32⟩ : BufTy).Contents (Elt F)) (Φ₁ (Proc.devRef .tc Cert.KernelIdeal.main_c_1)) (Φ₂ (Proc.devRef .tc Cert.ReferenceIdeal.main_c_1)) := step0 (β := ((⟨Cert.KernelIdeal.S2, .i32⟩ : BufTy).Contents (Elt F))) (eq0 (at_ fa0 (i := 2) rfl) :) (eq0 (at_ fb0 (i := 2) rfl) :)
  have e3 : @Eq ((⟨Cert.KernelIdeal.S2, .i32⟩ : BufTy).Contents (Elt F)) (Φ₁ (Proc.devRef .tc Cert.KernelIdeal.main_c_2)) (Φ₂ (Proc.devRef .tc Cert.ReferenceIdeal.main_c_2)) := step0 (β := ((⟨Cert.KernelIdeal.S2, .i32⟩ : BufTy).Contents (Elt F))) (eq0 (at_ fa0 (i := 3) rfl) :) (eq0 (at_ fb0 (i := 3) rfl) :)
  have e4 : @Eq ((⟨Cert.KernelIdeal.S2, .i32⟩ : BufTy).Contents (Elt F)) (Φ₁ (Proc.devRef .tc Cert.KernelIdeal.main_c_3)) (Φ₂ (Proc.devRef .tc Cert.ReferenceIdeal.main_c_3)) := step0 (β := ((⟨Cert.KernelIdeal.S2, .i32⟩ : BufTy).Contents (Elt F))) (eq0 (at_ fa0 (i := 4) rfl) :) (eq0 (at_ fb0 (i := 4) rfl) :)
  have e5 : @Eq ((⟨Cert.KernelIdeal.S2, .i32⟩ : BufTy).Contents (Elt F)) (Φ₁ (Proc.devRef .tc Cert.KernelIdeal.main_c_4)) (Φ₂ (Proc.devRef .tc Cert.ReferenceIdeal.main_c_4)) := step0 (β := ((⟨Cert.KernelIdeal.S2, .i32⟩ : BufTy).Contents (Elt F))) (eq0 (at_ fa0 (i := 5) rfl) :) (eq0 (at_ fb0 (i := 5) rfl) :)
  have e6 : @Eq ((⟨Cert.KernelIdeal.S2, .i32⟩ : BufTy).Contents (Elt F)) (Φ₁ (Proc.devRef .tc Cert.KernelIdeal.main_c_5)) (Φ₂ (Proc.devRef .tc Cert.ReferenceIdeal.main_c_5)) := step0 (β := ((⟨Cert.KernelIdeal.S2, .i32⟩ : BufTy).Contents (Elt F))) (eq0 (at_ fa0 (i := 6) rfl) :) (eq0 (at_ fb0 (i := 6) rfl) :)
  have e7 : @Eq ((⟨Cert.KernelIdeal.S2, .i32⟩ : BufTy).Contents (Elt F)) (Φ₁ (Proc.devRef .tc Cert.KernelIdeal.main_c_6)) (Φ₂ (Proc.devRef .tc Cert.ReferenceIdeal.main_c_6)) := step0 (β := ((⟨Cert.KernelIdeal.S2, .i32⟩ : BufTy).Contents (Elt F))) (eq0 (at_ fa0 (i := 7) rfl) :) (eq0 (at_ fb0 (i := 7) rfl) :)
  have e8 : @Eq ((⟨Cert.KernelIdeal.S2, .i32⟩ : BufTy).Contents (Elt F)) (Φ₁ (Proc.devRef .tc Cert.KernelIdeal.main_c_7)) (Φ₂ (Proc.devRef .tc Cert.ReferenceIdeal.main_c_7)) := step0 (β := ((⟨Cert.KernelIdeal.S2, .i32⟩ : BufTy).Contents (Elt F))) (eq0 (at_ fa0 (i := 8) rfl) :) (eq0 (at_ fb0 (i := 8) rfl) :)
  have e9 : @Eq ((⟨Cert.KernelIdeal.S2, .i32⟩ : BufTy).Contents (Elt F)) (Φ₁ (Proc.devRef .tc Cert.KernelIdeal.main_c_8)) (Φ₂ (Proc.devRef .tc Cert.ReferenceIdeal.main_c_8)) := step0 (β := ((⟨Cert.KernelIdeal.S2, .i32⟩ : BufTy).Contents (Elt F))) (eq0 (at_ fa0 (i := 9) rfl) :) (eq0 (at_ fb0 (i := 9) rfl) :)
  have e10 : @Eq ((⟨Cert.KernelIdeal.S2, .i32⟩ : BufTy).Contents (Elt F)) (Φ₁ (Proc.devRef .tc Cert.KernelIdeal.main_c_9)) (Φ₂ (Proc.devRef .tc Cert.ReferenceIdeal.main_c_9)) := step0 (β := ((⟨Cert.KernelIdeal.S2, .i32⟩ : BufTy).Contents (Elt F))) (eq0 (at_ fa0 (i := 10) rfl) :) (eq0 (at_ fb0 (i := 10) rfl) :)
  have e11 : @Eq ((⟨Cert.KernelIdeal.S2, .i32⟩ : BufTy).Contents (Elt F)) (Φ₁ (Proc.devRef .tc Cert.KernelIdeal.main_c_10)) (Φ₂ (Proc.devRef .tc Cert.ReferenceIdeal.main_c_10)) := step0 (β := ((⟨Cert.KernelIdeal.S2, .i32⟩ : BufTy).Contents (Elt F))) (eq0 (at_ fa0 (i := 11) rfl) :) (eq0 (at_ fb0 (i := 11) rfl) :)
  have e12 : @Eq ((⟨Cert.KernelIdeal.S2, .i32⟩ : BufTy).Contents (Elt F)) (Φ₁ (Proc.devRef .tc Cert.KernelIdeal.main_c_11)) (Φ₂ (Proc.devRef .tc Cert.ReferenceIdeal.main_c_11)) := step0 (β := ((⟨Cert.KernelIdeal.S2, .i32⟩ : BufTy).Contents (Elt F))) (eq0 (at_ fa0 (i := 12) rfl) :) (eq0 (at_ fb0 (i := 12) rfl) :)
  have e13 : @Eq ((⟨Cert.KernelIdeal.S2, .i32⟩ : BufTy).Contents (Elt F)) (Φ₁ (Proc.devRef .tc Cert.KernelIdeal.main_c_12)) (Φ₂ (Proc.devRef .tc Cert.ReferenceIdeal.main_c_12)) := step0 (β := ((⟨Cert.KernelIdeal.S2, .i32⟩ : BufTy).Contents (Elt F))) (eq0 (at_ fa0 (i := 13) rfl) :) (eq0 (at_ fb0 (i := 13) rfl) :)
  have e14 : @Eq ((⟨Cert.KernelIdeal.S2, .i32⟩ : BufTy).Contents (Elt F)) (Φ₁ (Proc.devRef .tc Cert.KernelIdeal.main_c_13)) (Φ₂ (Proc.devRef .tc Cert.ReferenceIdeal.main_c_13)) := step0 (β := ((⟨Cert.KernelIdeal.S2, .i32⟩ : BufTy).Contents (Elt F))) (eq0 (at_ fa0 (i := 14) rfl) :) (eq0 (at_ fb0 (i := 14) rfl) :)
  have e15 : @Eq ((⟨Cert.KernelIdeal.S2, .i32⟩ : BufTy).Contents (Elt F)) (Φ₁ (Proc.devRef .tc Cert.KernelIdeal.main_c_14)) (Φ₂ (Proc.devRef .tc Cert.ReferenceIdeal.main_c_14)) := step0 (β := ((⟨Cert.KernelIdeal.S2, .i32⟩ : BufTy).Contents (Elt F))) (eq0 (at_ fa0 (i := 15) rfl) :) (eq0 (at_ fb0 (i := 15) rfl) :)
  have e16 : @Eq ((⟨Cert.KernelIdeal.S2, .i32⟩ : BufTy).Contents (Elt F)) (Φ₁ (Proc.devRef .tc Cert.KernelIdeal.main_c_15)) (Φ₂ (Proc.devRef .tc Cert.ReferenceIdeal.main_c_15)) := step0 (β := ((⟨Cert.KernelIdeal.S2, .i32⟩ : BufTy).Contents (Elt F))) (eq0 (at_ fa0 (i := 16) rfl) :) (eq0 (at_ fb0 (i := 16) rfl) :)
  have e17 : @Eq ((⟨Cert.KernelIdeal.S2, .i32⟩ : BufTy).Contents (Elt F)) (Φ₁ (Proc.devRef .tc Cert.KernelIdeal.main_c_16)) (Φ₂ (Proc.devRef .tc Cert.ReferenceIdeal.main_c_16)) := step0 (β := ((⟨Cert.KernelIdeal.S2, .i32⟩ : BufTy).Contents (Elt F))) (eq0 (at_ fa0 (i := 17) rfl) :) (eq0 (at_ fb0 (i := 17) rfl) :)
  have e18 : @Eq ((⟨Cert.KernelIdeal.S2, .i32⟩ : BufTy).Contents (Elt F)) (Φ₁ (Proc.devRef .tc Cert.KernelIdeal.main_c_17)) (Φ₂ (Proc.devRef .tc Cert.ReferenceIdeal.main_c_17)) := step0 (β := ((⟨Cert.KernelIdeal.S2, .i32⟩ : BufTy).Contents (Elt F))) (eq0 (at_ fa0 (i := 18) rfl) :) (eq0 (at_ fb0 (i := 18) rfl) :)
  have e19 : @Eq ((⟨Cert.KernelIdeal.S2, .i32⟩ : BufTy).Contents (Elt F)) (Φ₁ (Proc.devRef .tc Cert.KernelIdeal.main_c_18)) (Φ₂ (Proc.devRef .tc Cert.ReferenceIdeal.main_c_18)) := step0 (β := ((⟨Cert.KernelIdeal.S2, .i32⟩ : BufTy).Contents (Elt F))) (eq0 (at_ fa0 (i := 19) rfl) :) (eq0 (at_ fb0 (i := 19) rfl) :)
  have e20 : @Eq ((⟨Cert.KernelIdeal.S2, .i32⟩ : BufTy).Contents (Elt F)) (Φ₁ (Proc.devRef .tc Cert.KernelIdeal.main_c_19)) (Φ₂ (Proc.devRef .tc Cert.ReferenceIdeal.main_c_19)) := step0 (β := ((⟨Cert.KernelIdeal.S2, .i32⟩ : BufTy).Contents (Elt F))) (eq0 (at_ fa0 (i := 20) rfl) :) (eq0 (at_ fb0 (i := 20) rfl) :)
  have e21 : @Eq ((⟨Cert.KernelIdeal.S2, .i32⟩ : BufTy).Contents (Elt F)) (Φ₁ (Proc.devRef .tc Cert.KernelIdeal.main_c_20)) (Φ₂ (Proc.devRef .tc Cert.ReferenceIdeal.main_c_20)) := step0 (β := ((⟨Cert.KernelIdeal.S2, .i32⟩ : BufTy).Contents (Elt F))) (eq0 (at_ fa0 (i := 21) rfl) :) (eq0 (at_ fb0 (i := 21) rfl) :)
  have e22 : @Eq ((⟨Cert.KernelIdeal.S2, .i32⟩ : BufTy).Contents (Elt F)) (Φ₁ (Proc.devRef .tc Cert.KernelIdeal.main_c_21)) (Φ₂ (Proc.devRef .tc Cert.ReferenceIdeal.main_c_21)) := step0 (β := ((⟨Cert.KernelIdeal.S2, .i32⟩ : BufTy).Contents (Elt F))) (eq0 (at_ fa0 (i := 22) rfl) :) (eq0 (at_ fb0 (i := 22) rfl) :)
  have e23 : @Eq ((⟨Cert.KernelIdeal.S2, .i32⟩ : BufTy).Contents (Elt F)) (Φ₁ (Proc.devRef .tc Cert.KernelIdeal.main_c_22)) (Φ₂ (Proc.devRef .tc Cert.ReferenceIdeal.main_c_22)) := step0 (β := ((⟨Cert.KernelIdeal.S2, .i32⟩ : BufTy).Contents (Elt F))) (eq0 (at_ fa0 (i := 23) rfl) :) (eq0 (at_ fb0 (i := 23) rfl) :)
  have e24 : @Eq ((⟨Cert.KernelIdeal.S_, .f32⟩ : BufTy).Contents (Elt F)) (Φ₁ (Proc.devRef .tc Cert.KernelIdeal.main_cst)) (Φ₂ (Proc.devRef .tc Cert.ReferenceIdeal.main_cst)) := step0 (β := ((⟨Cert.KernelIdeal.S_, .f32⟩ : BufTy).Contents (Elt F))) (eq0 (at_ fa0 (i := 24) rfl) :) (eq0 (at_ fb0 (i := 24) rfl) :)
  have e25 : @Eq ((⟨Cert.KernelIdeal.S4096x32x3, .f32⟩ : BufTy).Contents (Elt F)) (Φ₁ (Proc.devRef .tc Cert.KernelIdeal.main_v0)) (Φ₂ (Proc.devRef .tc Cert.ReferenceIdeal.main_v0)) := step1 (α := ((⟨Cert.KernelIdeal.S_, .f32⟩ : BufTy).Contents (Elt F))) (β := ((⟨Cert.KernelIdeal.S4096x32x3, .f32⟩ : BufTy).Contents (Elt F))) (eq1 (at_ fa0 (i := 25) rfl) :) (eq1 (at_ fb0 (i := 25) rfl) :) e24
  have e26 : @Eq ((⟨Cert.KernelIdeal.S4096x32x3, .f32⟩ : BufTy).Contents (Elt F)) (Φ₁ (Proc.devRef .tc Cert.KernelIdeal.main_v1)) (Φ₂ (Proc.devRef .tc Cert.ReferenceIdeal.main_v1)) := step2 (α₁ := ((⟨Cert.KernelIdeal.S4096x32x3, .f32⟩ : BufTy).Contents (Elt F))) (α₂ := ((⟨Cert.KernelIdeal.S4096x32x3, .f32⟩ : BufTy).Contents (Elt F))) (β := ((⟨Cert.KernelIdeal.S4096x32x3, .f32⟩ : BufTy).Contents (Elt F))) (eq2 (at_ fa0 (i := 26) rfl) :) (eq2 (at_ fb0 (i := 26) rfl) :) x0 e25
  have e27 : @Eq ((⟨Cert.KernelIdeal.S_, .f32⟩ : BufTy).Contents (Elt F)) (Φ₁ (Proc.devRef .tc Cert.KernelIdeal.main_cst_23)) (Φ₂ (Proc.devRef .tc Cert.ReferenceIdeal.main_cst_23)) := step0 (β := ((⟨Cert.KernelIdeal.S_, .f32⟩ : BufTy).Contents (Elt F))) (eq0 (at_ fa0 (i := 27) rfl) :) (eq0 (at_ fb0 (i := 27) rfl) :)
  have e28 : @Eq ((⟨Cert.KernelIdeal.S4096x32x3, .f32⟩ : BufTy).Contents (Elt F)) (Φ₁ (Proc.devRef .tc Cert.KernelIdeal.main_v2)) (Φ₂ (Proc.devRef .tc Cert.ReferenceIdeal.main_v2)) := step1 (α := ((⟨Cert.KernelIdeal.S_, .f32⟩ : BufTy).Contents (Elt F))) (β := ((⟨Cert.KernelIdeal.S4096x32x3, .f32⟩ : BufTy).Contents (Elt F))) (eq1 (at_ fa0 (i := 28) rfl) :) (eq1 (at_ fb0 (i := 28) rfl) :) e27
  have e29 : @Eq ((⟨Cert.KernelIdeal.S4096x32x3, .f32⟩ : BufTy).Contents (Elt F)) (Φ₁ (Proc.devRef .tc Cert.KernelIdeal.main_v3)) (Φ₂ (Proc.devRef .tc Cert.ReferenceIdeal.main_v3)) := step2 (α₁ := ((⟨Cert.KernelIdeal.S4096x32x3, .f32⟩ : BufTy).Contents (Elt F))) (α₂ := ((⟨Cert.KernelIdeal.S4096x32x3, .f32⟩ : BufTy).Contents (Elt F))) (β := ((⟨Cert.KernelIdeal.S4096x32x3, .f32⟩ : BufTy).Contents (Elt F))) (eq2 (at_ fa0 (i := 29) rfl) :) (eq2 (at_ fb0 (i := 29) rfl) :) e26 e28
  have e30 : @Eq ((⟨Cert.KernelIdeal.S4096x1, .f32⟩ : BufTy).Contents (Elt F)) (Φ₁ (Proc.devRef .tc Cert.KernelIdeal.main_v4)) (Φ₂ (Proc.devRef .tc Cert.ReferenceIdeal.main_v4)) := step1 (α := ((⟨Cert.KernelIdeal.S4096, .f32⟩ : BufTy).Contents (Elt F))) (β := ((⟨Cert.KernelIdeal.S4096x1, .f32⟩ : BufTy).Contents (Elt F))) (eq1 (at_ fa0 (i := 30) rfl) :) (eq1 (at_ fb0 (i := 30) rfl) :) x1
  have e31 : @Eq ((⟨Cert.KernelIdeal.S4096x32, .f32⟩ : BufTy).Contents (Elt F)) (Φ₁ (Proc.devRef .tc Cert.KernelIdeal.main_v5)) (Φ₂ (Proc.devRef .tc Cert.ReferenceIdeal.main_v5)) := step1 (α := ((⟨Cert.KernelIdeal.S4096x1, .f32⟩ : BufTy).Contents (Elt F))) (β := ((⟨Cert.KernelIdeal.S4096x32, .f32⟩ : BufTy).Contents (Elt F))) (eq1 (at_ fa0 (i := 31) rfl) :) (eq1 (at_ fb0 (i := 31) rfl) :) e30
  have e32 : @Eq ((⟨Cert.KernelIdeal.S4096x32x1, .f32⟩ : BufTy).Contents (Elt F)) (Φ₁ (Proc.devRef .tc Cert.KernelIdeal.main_v6)) (Φ₂ (Proc.devRef .tc Cert.ReferenceIdeal.main_v6)) := step1 (α := ((⟨Cert.KernelIdeal.S4096x32, .f32⟩ : BufTy).Contents (Elt F))) (β := ((⟨Cert.KernelIdeal.S4096x32x1, .f32⟩ : BufTy).Contents (Elt F))) (eq1 (at_ fa0 (i := 32) rfl) :) (eq1 (at_ fb0 (i := 32) rfl) :) e31
  have e33 : @Eq ((⟨Cert.KernelIdeal.S4096x32x4, .f32⟩ : BufTy).Contents (Elt F)) (Φ₁ (Proc.devRef .tc Cert.KernelIdeal.main_v7)) (Φ₂ (Proc.devRef .tc Cert.ReferenceIdeal.main_v7)) := by rw [eq2 (at_ fa0 (i := 33) rfl), eq2 (at_ fb0 (i := 33) rfl), e29, e32] <;> rfl
  have e34 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)) := step1 (α := ((⟨Cert.KernelIdeal.S4096x32x4, .f32⟩ : BufTy).Contents (Elt F))) (β := ((⟨Cert.KernelIdeal.S131072x4, .f32⟩ : BufTy).Contents (Elt F))) (eqR (at_ fa0 (i := 34) rfl) :) (eqR (at_ fb0 (i := 34) rfl) :) e33
  exact ⟨e34, e0, e1, e2, e3, e4, e5, e6, e7, e8, e9, e10, e11, e12, e13, e14, e15, e16, e17, e18, e19, e20, e21, e22, e23⟩

end Cert.Bridge

end
-- ==== Proof.SimB0.lean ====
/- Operations 35 … 221 of the one program and 35 … 221 of the other apply the same functions to corresponding
   buffers. If both programs' final contents satisfy their own lines' equations and agree on the buffers these operations
   read from outside, they agree on what these operations write: one congruence per operation, in program order. -/
import proofs.«133805_j10187662426200_2_alg».proof.Proof.KIStretch0
import proofs.«133805_j10187662426200_2_alg».proof.Proof.RefOps0
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B0 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0 : List (HloOp Cert.KernelIdeal.τ Cert.KernelIdeal.sig (Elt F))).Forall fun op => ∀ b ∈ op.writes, Φ₁ b = op.result Φ₁ b)
    (fa1 : (Cert.KernelIdeal.Gen.hostOps0_1 : List (HloOp Cert.KernelIdeal.τ Cert.KernelIdeal.sig (Elt F))).Forall fun op => ∀ b ∈ op.writes, Φ₁ b = op.result Φ₁ b)
    (fa2 : (Cert.KernelIdeal.Gen.hostOps0_2 : List (HloOp Cert.KernelIdeal.τ Cert.KernelIdeal.sig (Elt F))).Forall fun op => ∀ b ∈ op.writes, Φ₁ b = op.result Φ₁ b)
    (fa3 : (Cert.KernelIdeal.Gen.hostOps0_3 : List (HloOp Cert.KernelIdeal.τ Cert.KernelIdeal.sig (Elt F))).Forall fun op => ∀ b ∈ op.writes, Φ₁ b = op.result Φ₁ b)
    (fa4 : (Cert.KernelIdeal.Gen.hostOps0_4 : List (HloOp Cert.KernelIdeal.τ Cert.KernelIdeal.sig (Elt F))).Forall fun op => ∀ b ∈ op.writes, Φ₁ b = op.result Φ₁ b)
    (fa5 : (Cert.KernelIdeal.Gen.hostOps0_5 : List (HloOp Cert.KernelIdeal.τ Cert.KernelIdeal.sig (Elt F))).Forall fun op => ∀ b ∈ op.writes, Φ₁ b = op.result Φ₁ b)
    (fa6 : (Cert.KernelIdeal.Gen.hostOps0_6 : List (HloOp Cert.KernelIdeal.τ Cert.KernelIdeal.sig (Elt F))).Forall fun op => ∀ b ∈ op.writes, Φ₁ b = op.result Φ₁ b)
    (fa7 : (Cert.KernelIdeal.Gen.hostOps0_7 : List (HloOp Cert.KernelIdeal.τ Cert.KernelIdeal.sig (Elt F))).Forall fun op => ∀ b ∈ op.writes, Φ₁ b = op.result Φ₁ b)
    (fa8 : (Cert.KernelIdeal.Gen.hostOps0_8 : List (HloOp Cert.KernelIdeal.τ Cert.KernelIdeal.sig (Elt F))).Forall fun op => ∀ b ∈ op.writes, Φ₁ b = op.result Φ₁ b)
    (fb0 : (Cert.ReferenceIdeal.Ops.w0 : List (HloOp Cert.ReferenceIdeal.τ Cert.ReferenceIdeal.sig (Elt F))).Forall fun op => ∀ b ∈ op.writes, Φ₂ b = op.result Φ₂ b)
    (fb1 : (Cert.ReferenceIdeal.Ops.w1 : List (HloOp Cert.ReferenceIdeal.τ Cert.ReferenceIdeal.sig (Elt F))).Forall fun op => ∀ b ∈ op.writes, Φ₂ b = op.result Φ₂ b)
    (fb2 : (Cert.ReferenceIdeal.Ops.w2 : List (HloOp Cert.ReferenceIdeal.τ Cert.ReferenceIdeal.sig (Elt F))).Forall fun op => ∀ b ∈ op.writes, Φ₂ b = op.result Φ₂ b)
    (fb3 : (Cert.ReferenceIdeal.Ops.w3 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c)) (Φ₂ (Proc.devRef .tc Cert.ReferenceIdeal.main_c)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x64x64, .f32⟩ : BufTy).Contents (Elt F)) (Φ₁ (Proc.devRef .tc Cert.KernelIdeal.main_arg2)) (Φ₂ (Proc.devRef .tc Cert.ReferenceIdeal.main_arg2)))
    : @Eq ((⟨Cert.KernelIdeal.S131072x32, .f32⟩ : BufTy).Contents (Elt F)) (Φ₁ (Proc.devRef .tc Cert.KernelIdeal.main_v137)) (Φ₂ (Proc.devRef .tc Cert.ReferenceIdeal.main_v137)) := by
  have e0 : @Eq ((⟨Cert.KernelIdeal.S_, .i32⟩ : BufTy).Contents (Elt F)) (Φ₁ (Proc.devRef .tc Cert.KernelIdeal.main_c_24)) (Φ₂ (Proc.devRef .tc Cert.ReferenceIdeal.main_c_24)) := step0 (β := ((⟨Cert.KernelIdeal.S_, .i32⟩ : BufTy).Contents (Elt F))) (eq0 (at_ fa0 (i := 35) rfl) :) (eq0 (at_ fb0 (i := 35) rfl) :)
  have e1 : @Eq ((⟨Cert.KernelIdeal.S2, .i32⟩ : BufTy).Contents (Elt F)) (Φ₁ (Proc.devRef .tc Cert.KernelIdeal.main_v9)) (Φ₂ (Proc.devRef .tc Cert.ReferenceIdeal.main_v9)) := step1 (α := ((⟨Cert.KernelIdeal.S_, .i32⟩ : BufTy).Contents (Elt F))) (β := ((⟨Cert.KernelIdeal.S2, .i32⟩ : BufTy).Contents (Elt F))) (eq1 (at_ fa0 (i := 36) rfl) :) (eq1 (at_ fb0 (i := 36) rfl) :) e0
  have e2 : @Eq ((⟨Cert.KernelIdeal.S2, .i1⟩ : BufTy).Contents (Elt F)) (Φ₁ (Proc.devRef .tc Cert.KernelIdeal.main_v10)) (Φ₂ (Proc.devRef .tc Cert.ReferenceIdeal.main_v10)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 37) rfl) :) (eq2 (at_ fb0 (i := 37) rfl) :) x0 e1
  have e3 : @Eq ((⟨Cert.KernelIdeal.S_, .i32⟩ : BufTy).Contents (Elt F)) (Φ₁ (Proc.devRef .tc Cert.KernelIdeal.main_c_25)) (Φ₂ (Proc.devRef .tc Cert.ReferenceIdeal.main_c_25)) := step0 (β := ((⟨Cert.KernelIdeal.S_, .i32⟩ : BufTy).Contents (Elt F))) (eq0 (at_ fa0 (i := 38) rfl) :) (eq0 (at_ fb0 (i := 38) rfl) :)
  have e4 : @Eq ((⟨Cert.KernelIdeal.S2, .i32⟩ : BufTy).Contents (Elt F)) (Φ₁ (Proc.devRef .tc Cert.KernelIdeal.main_v11)) (Φ₂ (Proc.devRef .tc Cert.ReferenceIdeal.main_v11)) := step1 (α := ((⟨Cert.KernelIdeal.S_, .i32⟩ : BufTy).Contents (Elt F))) (β := ((⟨Cert.KernelIdeal.S2, .i32⟩ : BufTy).Contents (Elt F))) (eq1 (at_ fa0 (i := 39) rfl) :) (eq1 (at_ fb0 (i := 39) rfl) :) e3
  have e5 : @Eq ((⟨Cert.KernelIdeal.S2, .i32⟩ : BufTy).Contents (Elt F)) (Φ₁ (Proc.devRef .tc Cert.KernelIdeal.main_v12)) (Φ₂ (Proc.devRef .tc Cert.ReferenceIdeal.main_v12)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 40) rfl) :) (eq2 (at_ fb0 (i := 40) rfl) :) x0 e4
  have e6 : @Eq ((⟨Cert.KernelIdeal.S2, .i32⟩ : BufTy).Contents (Elt F)) (Φ₁ (Proc.devRef .tc Cert.KernelIdeal.main_v13)) (Φ₂ (Proc.devRef .tc Cert.ReferenceIdeal.main_v13)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 41) rfl) :) (eq3 (at_ fb0 (i := 41) rfl) :) e2 e5 x0
  have e7 : @Eq ((⟨Cert.KernelIdeal.S2x1, .i32⟩ : BufTy).Contents (Elt F)) (Φ₁ (Proc.devRef .tc Cert.KernelIdeal.main_v14)) (Φ₂ (Proc.devRef .tc Cert.ReferenceIdeal.main_v14)) := step1 (α := ((⟨Cert.KernelIdeal.S2, .i32⟩ : BufTy).Contents (Elt F))) (β := ((⟨Cert.KernelIdeal.S2x1, .i32⟩ : BufTy).Contents (Elt F))) (eq1 (at_ fa0 (i := 42) rfl) :) (eq1 (at_ fb0 (i := 42) rfl) :) e6
  have e8 : @Eq ((⟨Cert.KernelIdeal.S131072x2, .f32⟩ : BufTy).Contents (Elt F)) (Φ₁ (Proc.devRef .tc Cert.KernelIdeal.main_v15)) (Φ₂ (Proc.devRef .tc Cert.ReferenceIdeal.main_v15)) := by rw [eq2 (at_ fa0 (i := 43) rfl), eq2 (at_ fb0 (i := 43) rfl), x1, e7] <;> rfl
  have e9 : @Eq ((⟨Cert.KernelIdeal.S131072x1, .f32⟩ : BufTy).Contents (Elt F)) (Φ₁ (Proc.devRef .tc Cert.KernelIdeal.main_v16)) (Φ₂ (Proc.devRef .tc Cert.ReferenceIdeal.main_v16)) := by rw [eq1 (at_ fa0 (i := 44) rfl), eq1 (at_ fb0 (i := 44) rfl), e8] <;> rfl
  have e10 : @Eq ((⟨Cert.KernelIdeal.S131072, .f32⟩ : BufTy).Contents (Elt F)) (Φ₁ (Proc.devRef .tc Cert.KernelIdeal.main_v17)) (Φ₂ (Proc.devRef .tc Cert.ReferenceIdeal.main_v17)) := step1 (α := ((⟨Cert.KernelIdeal.S131072x1, .f32⟩ : BufTy).Contents (Elt F))) (β := ((⟨Cert.KernelIdeal.S131072, .f32⟩ : BufTy).Contents (Elt F))) (eqR (at_ fa0 (i := 45) rfl) :) (eqR (at_ fb0 (i := 45) rfl) :) e9
  have e11 : @Eq ((⟨Cert.KernelIdeal.S_, .f32⟩ : BufTy).Contents (Elt F)) (Φ₁ (Proc.devRef .tc Cert.KernelIdeal.main_cst_26)) (Φ₂ (Proc.devRef .tc Cert.ReferenceIdeal.main_cst_26)) := step0 (β := ((⟨Cert.KernelIdeal.S_, .f32⟩ : BufTy).Contents (Elt F))) (eq0 (at_ fa0 (i := 46) rfl) :) (eq0 (at_ fb0 (i := 46) rfl) :)
  have e12 : @Eq ((⟨Cert.KernelIdeal.S131072, .f32⟩ : BufTy).Contents (Elt F)) (Φ₁ (Proc.devRef .tc Cert.KernelIdeal.main_v18)) (Φ₂ (Proc.devRef .tc Cert.ReferenceIdeal.main_v18)) := step1 (α := ((⟨Cert.KernelIdeal.S_, .f32⟩ : BufTy).Contents (Elt F))) (β := ((⟨Cert.KernelIdeal.S131072, .f32⟩ : BufTy).Contents (Elt F))) (eq1 (at_ fa0 (i := 47) rfl) :) (eq1 (at_ fb0 (i := 47) rfl) :) e11
  have e13 : @Eq ((⟨Cert.KernelIdeal.S131072, .f32⟩ : BufTy).Contents (Elt F)) (Φ₁ (Proc.devRef .tc Cert.KernelIdeal.main_v19)) (Φ₂ (Proc.devRef .tc Cert.ReferenceIdeal.main_v19)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 48) rfl) :) (eq2 (at_ fb0 (i := 48) rfl) :) e10 e12
  have e14 : @Eq ((⟨Cert.KernelIdeal.S_, .f32⟩ : BufTy).Contents (Elt F)) (Φ₁ (Proc.devRef .tc Cert.KernelIdeal.main_cst_27)) (Φ₂ (Proc.devRef .tc Cert.ReferenceIdeal.main_cst_27)) := step0 (β := ((⟨Cert.KernelIdeal.S_, .f32⟩ : BufTy).Contents (Elt F))) (eq0 (at_ fa0 (i := 49) rfl) :) (eq0 (at_ fb0 (i := 49) rfl) :)
  have e15 : @Eq ((⟨Cert.KernelIdeal.S131072, .f32⟩ : BufTy).Contents (Elt F)) (Φ₁ (Proc.devRef .tc Cert.KernelIdeal.main_v20)) (Φ₂ (Proc.devRef .tc Cert.ReferenceIdeal.main_v20)) := step1 (α := ((⟨Cert.KernelIdeal.S_, .f32⟩ : BufTy).Contents (Elt F))) (β := ((⟨Cert.KernelIdeal.S131072, .f32⟩ : BufTy).Contents (Elt F))) (eq1 (at_ fa0 (i := 50) rfl) :) (eq1 (at_ fb0 (i := 50) rfl) :) e14
  have e16 : @Eq ((⟨Cert.KernelIdeal.S131072, .f32⟩ : BufTy).Contents (Elt F)) (Φ₁ (Proc.devRef .tc Cert.KernelIdeal.main_v21)) (Φ₂ (Proc.devRef .tc Cert.ReferenceIdeal.main_v21)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 51) rfl) :) (eq2 (at_ fb0 (i := 51) rfl) :) e13 e15
  have e17 : @Eq ((⟨Cert.KernelIdeal.S_, .f32⟩ : BufTy).Contents (Elt F)) (Φ₁ (Proc.devRef .tc Cert.KernelIdeal.main_cst_28)) (Φ₂ (Proc.devRef .tc Cert.ReferenceIdeal.main_cst_28)) := step0 (β := ((⟨Cert.KernelIdeal.S_, .f32⟩ : BufTy).Contents (Elt F))) (eq0 (at_ fa0 (i := 52) rfl) :) (eq0 (at_ fb0 (i := 52) rfl) :)
  have e18 : @Eq ((⟨Cert.KernelIdeal.S131072, .f32⟩ : BufTy).Contents (Elt F)) (Φ₁ (Proc.devRef .tc Cert.KernelIdeal.main_v22)) (Φ₂ (Proc.devRef .tc Cert.ReferenceIdeal.main_v22)) := step1 (α := ((⟨Cert.KernelIdeal.S_, .f32⟩ : BufTy).Contents (Elt F))) (β := ((⟨Cert.KernelIdeal.S131072, .f32⟩ : BufTy).Contents (Elt F))) (eq1 (at_ fa0 (i := 53) rfl) :) (eq1 (at_ fb0 (i := 53) rfl) :) e17
  have e19 : @Eq ((⟨Cert.KernelIdeal.S131072, .f32⟩ : BufTy).Contents (Elt F)) (Φ₁ (Proc.devRef .tc Cert.KernelIdeal.main_v23)) (Φ₂ (Proc.devRef .tc Cert.ReferenceIdeal.main_v23)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 54) rfl) :) (eq2 (at_ fb0 (i := 54) rfl) :) e16 e18
  have e20 : @Eq ((⟨Cert.KernelIdeal.S131072x1, .f32⟩ : BufTy).Contents (Elt F)) (Φ₁ (Proc.devRef .tc Cert.KernelIdeal.main_v24)) (Φ₂ (Proc.devRef .tc Cert.ReferenceIdeal.main_v24)) := by rw [eq1 (at_ fa0 (i := 55) rfl), eq1 (at_ fb0 (i := 55) rfl), e8] <;> rfl
  have e21 : @Eq ((⟨Cert.KernelIdeal.S131072, .f32⟩ : BufTy).Contents (Elt F)) (Φ₁ (Proc.devRef .tc Cert.KernelIdeal.main_v25)) (Φ₂ (Proc.devRef .tc Cert.ReferenceIdeal.main_v25)) := step1 (α := ((⟨Cert.KernelIdeal.S131072x1, .f32⟩ : BufTy).Contents (Elt F))) (β := ((⟨Cert.KernelIdeal.S131072, .f32⟩ : BufTy).Contents (Elt F))) (eqR (at_ fa0 (i := 56) rfl) :) (eqR (at_ fb0 (i := 56) rfl) :) e20
  have e22 : @Eq ((⟨Cert.KernelIdeal.S_, .f32⟩ : BufTy).Contents (Elt F)) (Φ₁ (Proc.devRef .tc Cert.KernelIdeal.main_cst_29)) (Φ₂ (Proc.devRef .tc Cert.ReferenceIdeal.main_cst_29)) := step0 (β := ((⟨Cert.KernelIdeal.S_, .f32⟩ : BufTy).Contents (Elt F))) (eq0 (at_ fa0 (i := 57) rfl) :) (eq0 (at_ fb0 (i := 57) rfl) :)
  have e23 : @Eq ((⟨Cert.KernelIdeal.S131072, .f32⟩ : BufTy).Contents (Elt F)) (Φ₁ (Proc.devRef .tc Cert.KernelIdeal.main_v26)) (Φ₂ (Proc.devRef .tc Cert.ReferenceIdeal.main_v26)) := step1 (α := ((⟨Cert.KernelIdeal.S_, .f32⟩ : BufTy).Contents (Elt F))) (β := ((⟨Cert.KernelIdeal.S131072, .f32⟩ : BufTy).Contents (Elt F))) (eq1 (at_ fa0 (i := 58) rfl) :) (eq1 (at_ fb0 (i := 58) rfl) :) e22
  have e24 : @Eq ((⟨Cert.KernelIdeal.S131072, .f32⟩ : BufTy).Contents (Elt F)) (Φ₁ (Proc.devRef .tc Cert.KernelIdeal.main_v27)) (Φ₂ (Proc.devRef .tc Cert.ReferenceIdeal.main_v27)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 59) rfl) :) (eq2 (at_ fb0 (i := 59) rfl) :) e21 e23
  have e25 : @Eq ((⟨Cert.KernelIdeal.S_, .f32⟩ : BufTy).Contents (Elt F)) (Φ₁ (Proc.devRef .tc Cert.KernelIdeal.main_cst_30)) (Φ₂ (Proc.devRef .tc Cert.ReferenceIdeal.main_cst_30)) := step0 (β := ((⟨Cert.KernelIdeal.S_, .f32⟩ : BufTy).Contents (Elt F))) (eq0 (at_ fa0 (i := 60) rfl) :) (eq0 (at_ fb1 (i := 0) rfl) :)
  have e26 : @Eq ((⟨Cert.KernelIdeal.S131072, .f32⟩ : BufTy).Contents (Elt F)) (Φ₁ (Proc.devRef .tc Cert.KernelIdeal.main_v28)) (Φ₂ (Proc.devRef .tc Cert.ReferenceIdeal.main_v28)) := step1 (α := ((⟨Cert.KernelIdeal.S_, .f32⟩ : BufTy).Contents (Elt F))) (β := ((⟨Cert.KernelIdeal.S131072, .f32⟩ : BufTy).Contents (Elt F))) (eq1 (at_ fa0 (i := 61) rfl) :) (eq1 (at_ fb1 (i := 1) rfl) :) e25
  have e27 : @Eq ((⟨Cert.KernelIdeal.S131072, .f32⟩ : BufTy).Contents (Elt F)) (Φ₁ (Proc.devRef .tc Cert.KernelIdeal.main_v29)) (Φ₂ (Proc.devRef .tc Cert.ReferenceIdeal.main_v29)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 62) rfl) :) (eq2 (at_ fb1 (i := 2) rfl) :) e24 e26
  have e28 : @Eq ((⟨Cert.KernelIdeal.S_, .f32⟩ : BufTy).Contents (Elt F)) (Φ₁ (Proc.devRef .tc Cert.KernelIdeal.main_cst_31)) (Φ₂ (Proc.devRef .tc Cert.ReferenceIdeal.main_cst_31)) := step0 (β := ((⟨Cert.KernelIdeal.S_, .f32⟩ : BufTy).Contents (Elt F))) (eq0 (at_ fa0 (i := 63) rfl) :) (eq0 (at_ fb1 (i := 3) rfl) :)
  have e29 : @Eq ((⟨Cert.KernelIdeal.S131072, .f32⟩ : BufTy).Contents (Elt F)) (Φ₁ (Proc.devRef .tc Cert.KernelIdeal.main_v30)) (Φ₂ (Proc.devRef .tc Cert.ReferenceIdeal.main_v30)) := step1 (α := ((⟨Cert.KernelIdeal.S_, .f32⟩ : BufTy).Contents (Elt F))) (β := ((⟨Cert.KernelIdeal.S131072, .f32⟩ : BufTy).Contents (Elt F))) (eq1 (at_ fa0 (i := 64) rfl) :) (eq1 (at_ fb1 (i := 4) rfl) :) e28
  have e30 : @Eq ((⟨Cert.KernelIdeal.S131072, .f32⟩ : BufTy).Contents (Elt F)) (Φ₁ (Proc.devRef .tc Cert.KernelIdeal.main_v31)) (Φ₂ (Proc.devRef .tc Cert.ReferenceIdeal.main_v31)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 65) rfl) :) (eq2 (at_ fb1 (i := 5) rfl) :) e27 e29
  have e31 : @Eq ((⟨Cert.KernelIdeal.S131072, .f32⟩ : BufTy).Contents (Elt F)) (Φ₁ (Proc.devRef .tc Cert.KernelIdeal.main_v32)) (Φ₂ (Proc.devRef .tc Cert.ReferenceIdeal.main_v32)) := step1 (α := ((⟨Cert.KernelIdeal.S131072, .f32⟩ : BufTy).Contents (Elt F))) (β := ((⟨Cert.KernelIdeal.S131072, .f32⟩ : BufTy).Contents (Elt F))) (eq1 (at_ fa0 (i := 66) rfl) :) (eq1 (at_ fb1 (i := 6) rfl) :) e19
  have e32 : @Eq ((⟨Cert.KernelIdeal.S131072, .f32⟩ : BufTy).Contents (Elt F)) (Φ₁ (Proc.devRef .tc Cert.KernelIdeal.main_v33)) (Φ₂ (Proc.devRef .tc Cert.ReferenceIdeal.main_v33)) := step1 (α := ((⟨Cert.KernelIdeal.S131072, .f32⟩ : BufTy).Contents (Elt F))) (β := ((⟨Cert.KernelIdeal.S131072, .f32⟩ : BufTy).Contents (Elt F))) (eq1 (at_ fa0 (i := 67) rfl) :) (eq1 (at_ fb1 (i := 7) rfl) :) e30
  have e33 : @Eq ((⟨Cert.KernelIdeal.S131072, .f32⟩ : BufTy).Contents (Elt F)) (Φ₁ (Proc.devRef .tc Cert.KernelIdeal.main_v34)) (Φ₂ (Proc.devRef .tc Cert.ReferenceIdeal.main_v34)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 68) rfl) :) (eq2 (at_ fb1 (i := 8) rfl) :) e19 e31
  have e34 : @Eq ((⟨Cert.KernelIdeal.S131072, .f32⟩ : BufTy).Contents (Elt F)) (Φ₁ (Proc.devRef .tc Cert.KernelIdeal.main_v35)) (Φ₂ (Proc.devRef .tc Cert.ReferenceIdeal.main_v35)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 69) rfl) :) (eq2 (at_ fb1 (i := 9) rfl) :) e30 e32
  have e35 : @Eq ((⟨Cert.KernelIdeal.S131072, .i32⟩ : BufTy).Contents (Elt F)) (Φ₁ (Proc.devRef .tc Cert.KernelIdeal.main_v36)) (Φ₂ (Proc.devRef .tc Cert.ReferenceIdeal.main_v36)) := step1 (α := ((⟨Cert.KernelIdeal.S131072, .f32⟩ : BufTy).Contents (Elt F))) (β := ((⟨Cert.KernelIdeal.S131072, .i32⟩ : BufTy).Contents (Elt F))) (eq1 (at_ fa0 (i := 70) rfl) :) (eq1 (at_ fb1 (i := 10) rfl) :) e31
  have e36 : @Eq ((⟨Cert.KernelIdeal.S_, .i32⟩ : BufTy).Contents (Elt F)) (Φ₁ (Proc.devRef .tc Cert.KernelIdeal.main_c_32)) (Φ₂ (Proc.devRef .tc Cert.ReferenceIdeal.main_c_32)) := step0 (β := ((⟨Cert.KernelIdeal.S_, .i32⟩ : BufTy).Contents (Elt F))) (eq0 (at_ fa0 (i := 71) rfl) :) (eq0 (at_ fb1 (i := 11) rfl) :)
  have e37 : @Eq ((⟨Cert.KernelIdeal.S_, .i32⟩ : BufTy).Contents (Elt F)) (Φ₁ (Proc.devRef .tc Cert.KernelIdeal.main_c_33)) (Φ₂ (Proc.devRef .tc Cert.ReferenceIdeal.main_c_33)) := step0 (β := ((⟨Cert.KernelIdeal.S_, .i32⟩ : BufTy).Contents (Elt F))) (eq0 (at_ fa0 (i := 72) rfl) :) (eq0 (at_ fb1 (i := 12) rfl) :)
  have e38 : @Eq ((⟨Cert.KernelIdeal.S_, .i32⟩ : BufTy).Contents (Elt F)) (Φ₁ (Proc.devRef .tc Cert.KernelIdeal.main_call0_v0)) (Φ₂ (Proc.devRef .tc Cert.ReferenceIdeal.main_call0_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 13) rfl) :) e36
  have e39 : @Eq ((⟨Cert.KernelIdeal.S131072, .i32⟩ : BufTy).Contents (Elt F)) (Φ₁ (Proc.devRef .tc Cert.KernelIdeal.main_call0_v1)) (Φ₂ (Proc.devRef .tc Cert.ReferenceIdeal.main_call0_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 14) rfl) :) e38
  have e40 : @Eq ((⟨Cert.KernelIdeal.S131072, .i32⟩ : BufTy).Contents (Elt F)) (Φ₁ (Proc.devRef .tc Cert.KernelIdeal.main_call0_v2)) (Φ₂ (Proc.devRef .tc Cert.ReferenceIdeal.main_call0_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 15) rfl) :) e39 e35
  have e41 : @Eq ((⟨Cert.KernelIdeal.S_, .i32⟩ : BufTy).Contents (Elt F)) (Φ₁ (Proc.devRef .tc Cert.KernelIdeal.main_call0_v3)) (Φ₂ (Proc.devRef .tc Cert.ReferenceIdeal.main_call0_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 16) rfl) :) e37
  have e42 : @Eq ((⟨Cert.KernelIdeal.S131072, .i32⟩ : BufTy).Contents (Elt F)) (Φ₁ (Proc.devRef .tc Cert.KernelIdeal.main_call0_v4)) (Φ₂ (Proc.devRef .tc Cert.ReferenceIdeal.main_call0_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 17) rfl) :) e41
  have e43 : @Eq ((⟨Cert.KernelIdeal.S131072, .i32⟩ : BufTy).Contents (Elt F)) (Φ₁ (Proc.devRef .tc Cert.KernelIdeal.main_v37)) (Φ₂ (Proc.devRef .tc Cert.ReferenceIdeal.main_v37)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 18) rfl) :) e42 e40
  have e44 : @Eq ((⟨Cert.KernelIdeal.S_, .i32⟩ : BufTy).Contents (Elt F)) (Φ₁ (Proc.devRef .tc Cert.KernelIdeal.main_c_34)) (Φ₂ (Proc.devRef .tc Cert.ReferenceIdeal.main_c_34)) := step0 (β := ((⟨Cert.KernelIdeal.S_, .i32⟩ : BufTy).Contents (Elt F))) (eq0 (at_ fa2 (i := 0) rfl) :) (eq0 (at_ fb1 (i := 19) rfl) :)
  have e45 : @Eq ((⟨Cert.KernelIdeal.S131072, .i32⟩ : BufTy).Contents (Elt F)) (Φ₁ (Proc.devRef .tc Cert.KernelIdeal.main_v38)) (Φ₂ (Proc.devRef .tc Cert.ReferenceIdeal.main_v38)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 20) rfl) :) e44
  have e46 : @Eq ((⟨Cert.KernelIdeal.S131072, .i32⟩ : BufTy).Contents (Elt F)) (Φ₁ (Proc.devRef .tc Cert.KernelIdeal.main_v39)) (Φ₂ (Proc.devRef .tc Cert.ReferenceIdeal.main_v39)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 21) rfl) :) e43 e45
  have e47 : @Eq ((⟨Cert.KernelIdeal.S_, .i32⟩ : BufTy).Contents (Elt F)) (Φ₁ (Proc.devRef .tc Cert.KernelIdeal.main_c_35)) (Φ₂ (Proc.devRef .tc Cert.ReferenceIdeal.main_c_35)) := step0 (β := ((⟨Cert.KernelIdeal.S_, .i32⟩ : BufTy).Contents (Elt F))) (eq0 (at_ fa2 (i := 3) rfl) :) (eq0 (at_ fb1 (i := 22) rfl) :)
  have e48 : @Eq ((⟨Cert.KernelIdeal.S_, .i32⟩ : BufTy).Contents (Elt F)) (Φ₁ (Proc.devRef .tc Cert.KernelIdeal.main_c_36)) (Φ₂ (Proc.devRef .tc Cert.ReferenceIdeal.main_c_36)) := step0 (β := ((⟨Cert.KernelIdeal.S_, .i32⟩ : BufTy).Contents (Elt F))) (eq0 (at_ fa2 (i := 4) rfl) :) (eq0 (at_ fb1 (i := 23) rfl) :)
  have e49 : @Eq ((⟨Cert.KernelIdeal.S_, .i32⟩ : BufTy).Contents (Elt F)) (Φ₁ (Proc.devRef .tc Cert.KernelIdeal.main_call1_v0)) (Φ₂ (Proc.devRef .tc Cert.ReferenceIdeal.main_call1_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 24) rfl) :) e47
  have e50 : @Eq ((⟨Cert.KernelIdeal.S131072, .i32⟩ : BufTy).Contents (Elt F)) (Φ₁ (Proc.devRef .tc Cert.KernelIdeal.main_call1_v1)) (Φ₂ (Proc.devRef .tc Cert.ReferenceIdeal.main_call1_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 25) rfl) :) e49
  have e51 : @Eq ((⟨Cert.KernelIdeal.S131072, .i32⟩ : BufTy).Contents (Elt F)) (Φ₁ (Proc.devRef .tc Cert.KernelIdeal.main_call1_v2)) (Φ₂ (Proc.devRef .tc Cert.ReferenceIdeal.main_call1_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 26) rfl) :) e50 e46
  have e52 : @Eq ((⟨Cert.KernelIdeal.S_, .i32⟩ : BufTy).Contents (Elt F)) (Φ₁ (Proc.devRef .tc Cert.KernelIdeal.main_call1_v3)) (Φ₂ (Proc.devRef .tc Cert.ReferenceIdeal.main_call1_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 27) rfl) :) e48
  have e53 : @Eq ((⟨Cert.KernelIdeal.S131072, .i32⟩ : BufTy).Contents (Elt F)) (Φ₁ (Proc.devRef .tc Cert.KernelIdeal.main_call1_v4)) (Φ₂ (Proc.devRef .tc Cert.ReferenceIdeal.main_call1_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 28) rfl) :) e52
  have e54 : @Eq ((⟨Cert.KernelIdeal.S131072, .i32⟩ : BufTy).Contents (Elt F)) (Φ₁ (Proc.devRef .tc Cert.KernelIdeal.main_v40)) (Φ₂ (Proc.devRef .tc Cert.ReferenceIdeal.main_v40)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 29) rfl) :) e53 e51
  have e55 : @Eq ((⟨Cert.KernelIdeal.S131072, .i32⟩ : BufTy).Contents (Elt F)) (Φ₁ (Proc.devRef .tc Cert.KernelIdeal.main_v41)) (Φ₂ (Proc.devRef .tc Cert.ReferenceIdeal.main_v41)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 30) rfl) :) e32
  have e56 : @Eq ((⟨Cert.KernelIdeal.S_, .i32⟩ : BufTy).Contents (Elt F)) (Φ₁ (Proc.devRef .tc Cert.KernelIdeal.main_c_37)) (Φ₂ (Proc.devRef .tc Cert.ReferenceIdeal.main_c_37)) := step0 (β := ((⟨Cert.KernelIdeal.S_, .i32⟩ : BufTy).Contents (Elt F))) (eq0 (at_ fa4 (i := 1) rfl) :) (eq0 (at_ fb1 (i := 31) rfl) :)
  have e57 : @Eq ((⟨Cert.KernelIdeal.S_, .i32⟩ : BufTy).Contents (Elt F)) (Φ₁ (Proc.devRef .tc Cert.KernelIdeal.main_c_38)) (Φ₂ (Proc.devRef .tc Cert.ReferenceIdeal.main_c_38)) := step0 (β := ((⟨Cert.KernelIdeal.S_, .i32⟩ : BufTy).Contents (Elt F))) (eq0 (at_ fa4 (i := 2) rfl) :) (eq0 (at_ fb1 (i := 32) rfl) :)
  have e58 : @Eq ((⟨Cert.KernelIdeal.S_, .i32⟩ : BufTy).Contents (Elt F)) (Φ₁ (Proc.devRef .tc Cert.KernelIdeal.main_call2_v0)) (Φ₂ (Proc.devRef .tc Cert.ReferenceIdeal.main_call2_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 33) rfl) :) e56
  have e59 : @Eq ((⟨Cert.KernelIdeal.S131072, .i32⟩ : BufTy).Contents (Elt F)) (Φ₁ (Proc.devRef .tc Cert.KernelIdeal.main_call2_v1)) (Φ₂ (Proc.devRef .tc Cert.ReferenceIdeal.main_call2_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 34) rfl) :) e58
  have e60 : @Eq ((⟨Cert.KernelIdeal.S131072, .i32⟩ : BufTy).Contents (Elt F)) (Φ₁ (Proc.devRef .tc Cert.KernelIdeal.main_call2_v2)) (Φ₂ (Proc.devRef .tc Cert.ReferenceIdeal.main_call2_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 35) rfl) :) e59 e55
  have e61 : @Eq ((⟨Cert.KernelIdeal.S_, .i32⟩ : BufTy).Contents (Elt F)) (Φ₁ (Proc.devRef .tc Cert.KernelIdeal.main_call2_v3)) (Φ₂ (Proc.devRef .tc Cert.ReferenceIdeal.main_call2_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 36) rfl) :) e57
  have e62 : @Eq ((⟨Cert.KernelIdeal.S131072, .i32⟩ : BufTy).Contents (Elt F)) (Φ₁ (Proc.devRef .tc Cert.KernelIdeal.main_call2_v4)) (Φ₂ (Proc.devRef .tc Cert.ReferenceIdeal.main_call2_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 37) rfl) :) e61
  have e63 : @Eq ((⟨Cert.KernelIdeal.S131072, .i32⟩ : BufTy).Contents (Elt F)) (Φ₁ (Proc.devRef .tc Cert.KernelIdeal.main_v42)) (Φ₂ (Proc.devRef .tc Cert.ReferenceIdeal.main_v42)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 38) rfl) :) e62 e60
  have e64 : @Eq ((⟨Cert.KernelIdeal.S_, .i32⟩ : BufTy).Contents (Elt F)) (Φ₁ (Proc.devRef .tc Cert.KernelIdeal.main_c_39)) (Φ₂ (Proc.devRef .tc Cert.ReferenceIdeal.main_c_39)) := step0 (β := ((⟨Cert.KernelIdeal.S_, .i32⟩ : BufTy).Contents (Elt F))) (eq0 (at_ fa6 (i := 0) rfl) :) (eq0 (at_ fb1 (i := 39) rfl) :)
  have e65 : @Eq ((⟨Cert.KernelIdeal.S131072, .i32⟩ : BufTy).Contents (Elt F)) (Φ₁ (Proc.devRef .tc Cert.KernelIdeal.main_v43)) (Φ₂ (Proc.devRef .tc Cert.ReferenceIdeal.main_v43)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 40) rfl) :) e64
  have e66 : @Eq ((⟨Cert.KernelIdeal.S131072, .i32⟩ : BufTy).Contents (Elt F)) (Φ₁ (Proc.devRef .tc Cert.KernelIdeal.main_v44)) (Φ₂ (Proc.devRef .tc Cert.ReferenceIdeal.main_v44)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 41) rfl) :) e63 e65
  have e67 : @Eq ((⟨Cert.KernelIdeal.S_, .i32⟩ : BufTy).Contents (Elt F)) (Φ₁ (Proc.devRef .tc Cert.KernelIdeal.main_c_40)) (Φ₂ (Proc.devRef .tc Cert.ReferenceIdeal.main_c_40)) := step0 (β := ((⟨Cert.KernelIdeal.S_, .i32⟩ : BufTy).Contents (Elt F))) (eq0 (at_ fa6 (i := 3) rfl) :) (eq0 (at_ fb1 (i := 42) rfl) :)
  have e68 : @Eq ((⟨Cert.KernelIdeal.S_, .i32⟩ : BufTy).Contents (Elt F)) (Φ₁ (Proc.devRef .tc Cert.KernelIdeal.main_c_41)) (Φ₂ (Proc.devRef .tc Cert.ReferenceIdeal.main_c_41)) := step0 (β := ((⟨Cert.KernelIdeal.S_, .i32⟩ : BufTy).Contents (Elt F))) (eq0 (at_ fa6 (i := 4) rfl) :) (eq0 (at_ fb1 (i := 43) rfl) :)
  have e69 : @Eq ((⟨Cert.KernelIdeal.S_, .i32⟩ : BufTy).Contents (Elt F)) (Φ₁ (Proc.devRef .tc Cert.KernelIdeal.main_call3_v0)) (Φ₂ (Proc.devRef .tc Cert.ReferenceIdeal.main_call3_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 44) rfl) :) e67
  have e70 : @Eq ((⟨Cert.KernelIdeal.S131072, .i32⟩ : BufTy).Contents (Elt F)) (Φ₁ (Proc.devRef .tc Cert.KernelIdeal.main_call3_v1)) (Φ₂ (Proc.devRef .tc Cert.ReferenceIdeal.main_call3_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 45) rfl) :) e69
  have e71 : @Eq ((⟨Cert.KernelIdeal.S131072, .i32⟩ : BufTy).Contents (Elt F)) (Φ₁ (Proc.devRef .tc Cert.KernelIdeal.main_call3_v2)) (Φ₂ (Proc.devRef .tc Cert.ReferenceIdeal.main_call3_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 46) rfl) :) e70 e66
  have e72 : @Eq ((⟨Cert.KernelIdeal.S_, .i32⟩ : BufTy).Contents (Elt F)) (Φ₁ (Proc.devRef .tc Cert.KernelIdeal.main_call3_v3)) (Φ₂ (Proc.devRef .tc Cert.ReferenceIdeal.main_call3_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 47) rfl) :) e68
  have e73 : @Eq ((⟨Cert.KernelIdeal.S131072, .i32⟩ : BufTy).Contents (Elt F)) (Φ₁ (Proc.devRef .tc Cert.KernelIdeal.main_call3_v4)) (Φ₂ (Proc.devRef .tc Cert.ReferenceIdeal.main_call3_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 48) rfl) :) e72
  have e74 : @Eq ((⟨Cert.KernelIdeal.S131072, .i32⟩ : BufTy).Contents (Elt F)) (Φ₁ (Proc.devRef .tc Cert.KernelIdeal.main_v45)) (Φ₂ (Proc.devRef .tc Cert.ReferenceIdeal.main_v45)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 49) rfl) :) e73 e71
  have e75 : @Eq ((⟨Cert.KernelIdeal.S_, .i32⟩ : BufTy).Contents (Elt F)) (Φ₁ (Proc.devRef .tc Cert.KernelIdeal.main_c_42)) (Φ₂ (Proc.devRef .tc Cert.ReferenceIdeal.main_c_42)) := step0 (β := ((⟨Cert.KernelIdeal.S_, .i32⟩ : BufTy).Contents (Elt F))) (eq0 (at_ fa8 (i := 0) rfl) :) (eq0 (at_ fb1 (i := 50) rfl) :)
  have e76 : @Eq ((⟨Cert.KernelIdeal.S131072, .i32⟩ : BufTy).Contents (Elt F)) (Φ₁ (Proc.devRef .tc Cert.KernelIdeal.main_v46)) (Φ₂ (Proc.devRef .tc Cert.ReferenceIdeal.main_v46)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 51) rfl) :) e75
  have e77 : @Eq ((⟨Cert.KernelIdeal.S131072, .i1⟩ : BufTy).Contents (Elt F)) (Φ₁ (Proc.devRef .tc Cert.KernelIdeal.main_v47)) (Φ₂ (Proc.devRef .tc Cert.ReferenceIdeal.main_v47)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 52) rfl) :) e63 e76
  have e78 : @Eq ((⟨Cert.KernelIdeal.S_, .i32⟩ : BufTy).Contents (Elt F)) (Φ₁ (Proc.devRef .tc Cert.KernelIdeal.main_c_43)) (Φ₂ (Proc.devRef .tc Cert.ReferenceIdeal.main_c_43)) := step0 (β := ((⟨Cert.KernelIdeal.S_, .i32⟩ : BufTy).Contents (Elt F))) (eq0 (at_ fa8 (i := 3) rfl) :) (eq0 (at_ fb1 (i := 53) rfl) :)
  have e79 : @Eq ((⟨Cert.KernelIdeal.S131072, .i32⟩ : BufTy).Contents (Elt F)) (Φ₁ (Proc.devRef .tc Cert.KernelIdeal.main_v48)) (Φ₂ (Proc.devRef .tc Cert.ReferenceIdeal.main_v48)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 54) rfl) :) e78
  have e80 : @Eq ((⟨Cert.KernelIdeal.S131072, .i32⟩ : BufTy).Contents (Elt F)) (Φ₁ (Proc.devRef .tc Cert.KernelIdeal.main_v49)) (Φ₂ (Proc.devRef .tc Cert.ReferenceIdeal.main_v49)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 55) rfl) :) e63 e79
  have e81 : @Eq ((⟨Cert.KernelIdeal.S131072, .i32⟩ : BufTy).Contents (Elt F)) (Φ₁ (Proc.devRef .tc Cert.KernelIdeal.main_v50)) (Φ₂ (Proc.devRef .tc Cert.ReferenceIdeal.main_v50)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 56) rfl) :) e77 e80 e63
  have e82 : @Eq ((⟨Cert.KernelIdeal.S_, .i32⟩ : BufTy).Contents (Elt F)) (Φ₁ (Proc.devRef .tc Cert.KernelIdeal.main_c_44)) (Φ₂ (Proc.devRef .tc Cert.ReferenceIdeal.main_c_44)) := step0 (β := ((⟨Cert.KernelIdeal.S_, .i32⟩ : BufTy).Contents (Elt F))) (eq0 (at_ fa8 (i := 7) rfl) :) (eq0 (at_ fb1 (i := 57) rfl) :)
  have e83 : @Eq ((⟨Cert.KernelIdeal.S131072, .i32⟩ : BufTy).Contents (Elt F)) (Φ₁ (Proc.devRef .tc Cert.KernelIdeal.main_v51)) (Φ₂ (Proc.devRef .tc Cert.ReferenceIdeal.main_v51)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 58) rfl) :) e82
  have e84 : @Eq ((⟨Cert.KernelIdeal.S131072, .i1⟩ : BufTy).Contents (Elt F)) (Φ₁ (Proc.devRef .tc Cert.KernelIdeal.main_v52)) (Φ₂ (Proc.devRef .tc Cert.ReferenceIdeal.main_v52)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 59) rfl) :) e43 e83
  have e85 : @Eq ((⟨Cert.KernelIdeal.S_, .i32⟩ : BufTy).Contents (Elt F)) (Φ₁ (Proc.devRef .tc Cert.KernelIdeal.main_c_45)) (Φ₂ (Proc.devRef .tc Cert.ReferenceIdeal.main_c_45)) := step0 (β := ((⟨Cert.KernelIdeal.S_, .i32⟩ : BufTy).Contents (Elt F))) (eq0 (at_ fa8 (i := 10) rfl) :) (eq0 (at_ fb1 (i := 60) rfl) :)
  have e86 : @Eq ((⟨Cert.KernelIdeal.S131072, .i32⟩ : BufTy).Contents (Elt F)) (Φ₁ (Proc.devRef .tc Cert.KernelIdeal.main_v53)) (Φ₂ (Proc.devRef .tc Cert.ReferenceIdeal.main_v53)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 61) rfl) :) e85
  have e87 : @Eq ((⟨Cert.KernelIdeal.S131072, .i32⟩ : BufTy).Contents (Elt F)) (Φ₁ (Proc.devRef .tc Cert.KernelIdeal.main_v54)) (Φ₂ (Proc.devRef .tc Cert.ReferenceIdeal.main_v54)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 62) rfl) :) e43 e86
  have e88 : @Eq ((⟨Cert.KernelIdeal.S131072, .i32⟩ : BufTy).Contents (Elt F)) (Φ₁ (Proc.devRef .tc Cert.KernelIdeal.main_v55)) (Φ₂ (Proc.devRef .tc Cert.ReferenceIdeal.main_v55)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 63) rfl) :) e84 e87 e43
  have e89 : @Eq ((⟨Cert.KernelIdeal.S131072x1, .i32⟩ : BufTy).Contents (Elt F)) (Φ₁ (Proc.devRef .tc Cert.KernelIdeal.main_v56)) (Φ₂ (Proc.devRef .tc Cert.ReferenceIdeal.main_v56)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 64) rfl) :) e81
  have e90 : @Eq ((⟨Cert.KernelIdeal.S131072x1, .i32⟩ : BufTy).Contents (Elt F)) (Φ₁ (Proc.devRef .tc Cert.KernelIdeal.main_v57)) (Φ₂ (Proc.devRef .tc Cert.ReferenceIdeal.main_v57)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 65) rfl) :) e88
  have e91 : @Eq ((⟨Cert.KernelIdeal.S131072x2, .i32⟩ : BufTy).Contents (Elt F)) (Φ₁ (Proc.devRef .tc Cert.KernelIdeal.main_v58)) (Φ₂ (Proc.devRef .tc Cert.ReferenceIdeal.main_v58)) := by rw [eq2 (at_ fa8 (i := 16) rfl), eq2 (at_ fb1 (i := 66) rfl), e89, e90] <;> rfl
  have e92 : @Eq ((⟨Cert.KernelIdeal.S32x131072, .f32⟩ : BufTy).Contents (Elt F)) (Φ₁ (Proc.devRef .tc Cert.KernelIdeal.main_v59)) (Φ₂ (Proc.devRef .tc Cert.ReferenceIdeal.main_v59)) := by rw [eq2 (at_ fa8 (i := 17) rfl), eq2 (at_ fb1 (i := 67) rfl), x2, e91] <;> rfl
  have e93 : @Eq ((⟨Cert.KernelIdeal.S_, .i32⟩ : BufTy).Contents (Elt F)) (Φ₁ (Proc.devRef .tc Cert.KernelIdeal.main_c_46)) (Φ₂ (Proc.devRef .tc Cert.ReferenceIdeal.main_c_46)) := step0 (β := ((⟨Cert.KernelIdeal.S_, .i32⟩ : BufTy).Contents (Elt F))) (eq0 (at_ fa8 (i := 18) rfl) :) (eq0 (at_ fb1 (i := 68) rfl) :)
  have e94 : @Eq ((⟨Cert.KernelIdeal.S131072, .i32⟩ : BufTy).Contents (Elt F)) (Φ₁ (Proc.devRef .tc Cert.KernelIdeal.main_v60)) (Φ₂ (Proc.devRef .tc Cert.ReferenceIdeal.main_v60)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 69) rfl) :) e93
  have e95 : @Eq ((⟨Cert.KernelIdeal.S131072, .i1⟩ : BufTy).Contents (Elt F)) (Φ₁ (Proc.devRef .tc Cert.KernelIdeal.main_v61)) (Φ₂ (Proc.devRef .tc Cert.ReferenceIdeal.main_v61)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 70) rfl) :) e63 e94
  have e96 : @Eq ((⟨Cert.KernelIdeal.S_, .i32⟩ : BufTy).Contents (Elt F)) (Φ₁ (Proc.devRef .tc Cert.KernelIdeal.main_c_47)) (Φ₂ (Proc.devRef .tc Cert.ReferenceIdeal.main_c_47)) := step0 (β := ((⟨Cert.KernelIdeal.S_, .i32⟩ : BufTy).Contents (Elt F))) (eq0 (at_ fa8 (i := 21) rfl) :) (eq0 (at_ fb1 (i := 71) rfl) :)
  have e97 : @Eq ((⟨Cert.KernelIdeal.S131072, .i32⟩ : BufTy).Contents (Elt F)) (Φ₁ (Proc.devRef .tc Cert.KernelIdeal.main_v62)) (Φ₂ (Proc.devRef .tc Cert.ReferenceIdeal.main_v62)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 72) rfl) :) e96
  have e98 : @Eq ((⟨Cert.KernelIdeal.S131072, .i32⟩ : BufTy).Contents (Elt F)) (Φ₁ (Proc.devRef .tc Cert.KernelIdeal.main_v63)) (Φ₂ (Proc.devRef .tc Cert.ReferenceIdeal.main_v63)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 73) rfl) :) e63 e97
  have e99 : @Eq ((⟨Cert.KernelIdeal.S131072, .i32⟩ : BufTy).Contents (Elt F)) (Φ₁ (Proc.devRef .tc Cert.KernelIdeal.main_v64)) (Φ₂ (Proc.devRef .tc Cert.ReferenceIdeal.main_v64)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 74) rfl) :) e95 e98 e63
  have e100 : @Eq ((⟨Cert.KernelIdeal.S_, .i32⟩ : BufTy).Contents (Elt F)) (Φ₁ (Proc.devRef .tc Cert.KernelIdeal.main_c_48)) (Φ₂ (Proc.devRef .tc Cert.ReferenceIdeal.main_c_48)) := step0 (β := ((⟨Cert.KernelIdeal.S_, .i32⟩ : BufTy).Contents (Elt F))) (eq0 (at_ fa8 (i := 25) rfl) :) (eq0 (at_ fb1 (i := 75) rfl) :)
  have e101 : @Eq ((⟨Cert.KernelIdeal.S131072, .i32⟩ : BufTy).Contents (Elt F)) (Φ₁ (Proc.devRef .tc Cert.KernelIdeal.main_v65)) (Φ₂ (Proc.devRef .tc Cert.ReferenceIdeal.main_v65)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 76) rfl) :) e100
  have e102 : @Eq ((⟨Cert.KernelIdeal.S131072, .i1⟩ : BufTy).Contents (Elt F)) (Φ₁ (Proc.devRef .tc Cert.KernelIdeal.main_v66)) (Φ₂ (Proc.devRef .tc Cert.ReferenceIdeal.main_v66)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 77) rfl) :) e54 e101
  have e103 : @Eq ((⟨Cert.KernelIdeal.S_, .i32⟩ : BufTy).Contents (Elt F)) (Φ₁ (Proc.devRef .tc Cert.KernelIdeal.main_c_49)) (Φ₂ (Proc.devRef .tc Cert.ReferenceIdeal.main_c_49)) := step0 (β := ((⟨Cert.KernelIdeal.S_, .i32⟩ : BufTy).Contents (Elt F))) (eq0 (at_ fa8 (i := 28) rfl) :) (eq0 (at_ fb1 (i := 78) rfl) :)
  have e104 : @Eq ((⟨Cert.KernelIdeal.S131072, .i32⟩ : BufTy).Contents (Elt F)) (Φ₁ (Proc.devRef .tc Cert.KernelIdeal.main_v67)) (Φ₂ (Proc.devRef .tc Cert.ReferenceIdeal.main_v67)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 79) rfl) :) e103
  have e105 : @Eq ((⟨Cert.KernelIdeal.S131072, .i32⟩ : BufTy).Contents (Elt F)) (Φ₁ (Proc.devRef .tc Cert.KernelIdeal.main_v68)) (Φ₂ (Proc.devRef .tc Cert.ReferenceIdeal.main_v68)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 0) rfl) :) e54 e104
  have e106 : @Eq ((⟨Cert.KernelIdeal.S131072, .i32⟩ : BufTy).Contents (Elt F)) (Φ₁ (Proc.devRef .tc Cert.KernelIdeal.main_v69)) (Φ₂ (Proc.devRef .tc Cert.ReferenceIdeal.main_v69)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 1) rfl) :) e102 e105 e54
  have e107 : @Eq ((⟨Cert.KernelIdeal.S131072x1, .i32⟩ : BufTy).Contents (Elt F)) (Φ₁ (Proc.devRef .tc Cert.KernelIdeal.main_v70)) (Φ₂ (Proc.devRef .tc Cert.ReferenceIdeal.main_v70)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 2) rfl) :) e99
  have e108 : @Eq ((⟨Cert.KernelIdeal.S131072x1, .i32⟩ : BufTy).Contents (Elt F)) (Φ₁ (Proc.devRef .tc Cert.KernelIdeal.main_v71)) (Φ₂ (Proc.devRef .tc Cert.ReferenceIdeal.main_v71)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 3) rfl) :) e106
  have e109 : @Eq ((⟨Cert.KernelIdeal.S131072x2, .i32⟩ : BufTy).Contents (Elt F)) (Φ₁ (Proc.devRef .tc Cert.KernelIdeal.main_v72)) (Φ₂ (Proc.devRef .tc Cert.ReferenceIdeal.main_v72)) := by rw [eq2 (at_ fa8 (i := 34) rfl), eq2 (at_ fb2 (i := 4) rfl), e107, e108] <;> rfl
  have e110 : @Eq ((⟨Cert.KernelIdeal.S32x131072, .f32⟩ : BufTy).Contents (Elt F)) (Φ₁ (Proc.devRef .tc Cert.KernelIdeal.main_v73)) (Φ₂ (Proc.devRef .tc Cert.ReferenceIdeal.main_v73)) := by rw [eq2 (at_ fa8 (i := 35) rfl), eq2 (at_ fb2 (i := 5) rfl), x2, e109] <;> rfl
  have e111 : @Eq ((⟨Cert.KernelIdeal.S_, .i32⟩ : BufTy).Contents (Elt F)) (Φ₁ (Proc.devRef .tc Cert.KernelIdeal.main_c_50)) (Φ₂ (Proc.devRef .tc Cert.ReferenceIdeal.main_c_50)) := step0 (β := ((⟨Cert.KernelIdeal.S_, .i32⟩ : BufTy).Contents (Elt F))) (eq0 (at_ fa8 (i := 36) rfl) :) (eq0 (at_ fb2 (i := 6) rfl) :)
  have e112 : @Eq ((⟨Cert.KernelIdeal.S131072, .i32⟩ : BufTy).Contents (Elt F)) (Φ₁ (Proc.devRef .tc Cert.KernelIdeal.main_v74)) (Φ₂ (Proc.devRef .tc Cert.ReferenceIdeal.main_v74)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 7) rfl) :) e111
  have e113 : @Eq ((⟨Cert.KernelIdeal.S131072, .i1⟩ : BufTy).Contents (Elt F)) (Φ₁ (Proc.devRef .tc Cert.KernelIdeal.main_v75)) (Φ₂ (Proc.devRef .tc Cert.ReferenceIdeal.main_v75)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 8) rfl) :) e74 e112
  have e114 : @Eq ((⟨Cert.KernelIdeal.S_, .i32⟩ : BufTy).Contents (Elt F)) (Φ₁ (Proc.devRef .tc Cert.KernelIdeal.main_c_51)) (Φ₂ (Proc.devRef .tc Cert.ReferenceIdeal.main_c_51)) := step0 (β := ((⟨Cert.KernelIdeal.S_, .i32⟩ : BufTy).Contents (Elt F))) (eq0 (at_ fa8 (i := 39) rfl) :) (eq0 (at_ fb2 (i := 9) rfl) :)
  have e115 : @Eq ((⟨Cert.KernelIdeal.S131072, .i32⟩ : BufTy).Contents (Elt F)) (Φ₁ (Proc.devRef .tc Cert.KernelIdeal.main_v76)) (Φ₂ (Proc.devRef .tc Cert.ReferenceIdeal.main_v76)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 10) rfl) :) e114
  have e116 : @Eq ((⟨Cert.KernelIdeal.S131072, .i32⟩ : BufTy).Contents (Elt F)) (Φ₁ (Proc.devRef .tc Cert.KernelIdeal.main_v77)) (Φ₂ (Proc.devRef .tc Cert.ReferenceIdeal.main_v77)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 11) rfl) :) e74 e115
  have e117 : @Eq ((⟨Cert.KernelIdeal.S131072, .i32⟩ : BufTy).Contents (Elt F)) (Φ₁ (Proc.devRef .tc Cert.KernelIdeal.main_v78)) (Φ₂ (Proc.devRef .tc Cert.ReferenceIdeal.main_v78)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 12) rfl) :) e113 e116 e74
  have e118 : @Eq ((⟨Cert.KernelIdeal.S_, .i32⟩ : BufTy).Contents (Elt F)) (Φ₁ (Proc.devRef .tc Cert.KernelIdeal.main_c_52)) (Φ₂ (Proc.devRef .tc Cert.ReferenceIdeal.main_c_52)) := step0 (β := ((⟨Cert.KernelIdeal.S_, .i32⟩ : BufTy).Contents (Elt F))) (eq0 (at_ fa8 (i := 43) rfl) :) (eq0 (at_ fb2 (i := 13) rfl) :)
  have e119 : @Eq ((⟨Cert.KernelIdeal.S131072, .i32⟩ : BufTy).Contents (Elt F)) (Φ₁ (Proc.devRef .tc Cert.KernelIdeal.main_v79)) (Φ₂ (Proc.devRef .tc Cert.ReferenceIdeal.main_v79)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 14) rfl) :) e118
  have e120 : @Eq ((⟨Cert.KernelIdeal.S131072, .i1⟩ : BufTy).Contents (Elt F)) (Φ₁ (Proc.devRef .tc Cert.KernelIdeal.main_v80)) (Φ₂ (Proc.devRef .tc Cert.ReferenceIdeal.main_v80)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 15) rfl) :) e43 e119
  have e121 : @Eq ((⟨Cert.KernelIdeal.S_, .i32⟩ : BufTy).Contents (Elt F)) (Φ₁ (Proc.devRef .tc Cert.KernelIdeal.main_c_53)) (Φ₂ (Proc.devRef .tc Cert.ReferenceIdeal.main_c_53)) := step0 (β := ((⟨Cert.KernelIdeal.S_, .i32⟩ : BufTy).Contents (Elt F))) (eq0 (at_ fa8 (i := 46) rfl) :) (eq0 (at_ fb2 (i := 16) rfl) :)
  have e122 : @Eq ((⟨Cert.KernelIdeal.S131072, .i32⟩ : BufTy).Contents (Elt F)) (Φ₁ (Proc.devRef .tc Cert.KernelIdeal.main_v81)) (Φ₂ (Proc.devRef .tc Cert.ReferenceIdeal.main_v81)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 17) rfl) :) e121
  have e123 : @Eq ((⟨Cert.KernelIdeal.S131072, .i32⟩ : BufTy).Contents (Elt F)) (Φ₁ (Proc.devRef .tc Cert.KernelIdeal.main_v82)) (Φ₂ (Proc.devRef .tc Cert.ReferenceIdeal.main_v82)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 18) rfl) :) e43 e122
  have e124 : @Eq ((⟨Cert.KernelIdeal.S131072, .i32⟩ : BufTy).Contents (Elt F)) (Φ₁ (Proc.devRef .tc Cert.KernelIdeal.main_v83)) (Φ₂ (Proc.devRef .tc Cert.ReferenceIdeal.main_v83)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 19) rfl) :) e120 e123 e43
  have e125 : @Eq ((⟨Cert.KernelIdeal.S131072x1, .i32⟩ : BufTy).Contents (Elt F)) (Φ₁ (Proc.devRef .tc Cert.KernelIdeal.main_v84)) (Φ₂ (Proc.devRef .tc Cert.ReferenceIdeal.main_v84)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 20) rfl) :) e117
  have e126 : @Eq ((⟨Cert.KernelIdeal.S131072x1, .i32⟩ : BufTy).Contents (Elt F)) (Φ₁ (Proc.devRef .tc Cert.KernelIdeal.main_v85)) (Φ₂ (Proc.devRef .tc Cert.ReferenceIdeal.main_v85)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 21) rfl) :) e124
  have e127 : @Eq ((⟨Cert.KernelIdeal.S131072x2, .i32⟩ : BufTy).Contents (Elt F)) (Φ₁ (Proc.devRef .tc Cert.KernelIdeal.main_v86)) (Φ₂ (Proc.devRef .tc Cert.ReferenceIdeal.main_v86)) := by rw [eq2 (at_ fa8 (i := 52) rfl), eq2 (at_ fb2 (i := 22) rfl), e125, e126] <;> rfl
  have e128 : @Eq ((⟨Cert.KernelIdeal.S32x131072, .f32⟩ : BufTy).Contents (Elt F)) (Φ₁ (Proc.devRef .tc Cert.KernelIdeal.main_v87)) (Φ₂ (Proc.devRef .tc Cert.ReferenceIdeal.main_v87)) := by rw [eq2 (at_ fa8 (i := 53) rfl), eq2 (at_ fb2 (i := 23) rfl), x2, e127] <;> rfl
  have e129 : @Eq ((⟨Cert.KernelIdeal.S_, .i32⟩ : BufTy).Contents (Elt F)) (Φ₁ (Proc.devRef .tc Cert.KernelIdeal.main_c_54)) (Φ₂ (Proc.devRef .tc Cert.ReferenceIdeal.main_c_54)) := step0 (β := ((⟨Cert.KernelIdeal.S_, .i32⟩ : BufTy).Contents (Elt F))) (eq0 (at_ fa8 (i := 54) rfl) :) (eq0 (at_ fb2 (i := 24) rfl) :)
  have e130 : @Eq ((⟨Cert.KernelIdeal.S131072, .i32⟩ : BufTy).Contents (Elt F)) (Φ₁ (Proc.devRef .tc Cert.KernelIdeal.main_v88)) (Φ₂ (Proc.devRef .tc Cert.ReferenceIdeal.main_v88)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 25) rfl) :) e129
  have e131 : @Eq ((⟨Cert.KernelIdeal.S131072, .i1⟩ : BufTy).Contents (Elt F)) (Φ₁ (Proc.devRef .tc Cert.KernelIdeal.main_v89)) (Φ₂ (Proc.devRef .tc Cert.ReferenceIdeal.main_v89)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 26) rfl) :) e74 e130
  have e132 : @Eq ((⟨Cert.KernelIdeal.S_, .i32⟩ : BufTy).Contents (Elt F)) (Φ₁ (Proc.devRef .tc Cert.KernelIdeal.main_c_55)) (Φ₂ (Proc.devRef .tc Cert.ReferenceIdeal.main_c_55)) := step0 (β := ((⟨Cert.KernelIdeal.S_, .i32⟩ : BufTy).Contents (Elt F))) (eq0 (at_ fa8 (i := 57) rfl) :) (eq0 (at_ fb2 (i := 27) rfl) :)
  have e133 : @Eq ((⟨Cert.KernelIdeal.S131072, .i32⟩ : BufTy).Contents (Elt F)) (Φ₁ (Proc.devRef .tc Cert.KernelIdeal.main_v90)) (Φ₂ (Proc.devRef .tc Cert.ReferenceIdeal.main_v90)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 28) rfl) :) e132
  have e134 : @Eq ((⟨Cert.KernelIdeal.S131072, .i32⟩ : BufTy).Contents (Elt F)) (Φ₁ (Proc.devRef .tc Cert.KernelIdeal.main_v91)) (Φ₂ (Proc.devRef .tc Cert.ReferenceIdeal.main_v91)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 29) rfl) :) e74 e133
  have e135 : @Eq ((⟨Cert.KernelIdeal.S131072, .i32⟩ : BufTy).Contents (Elt F)) (Φ₁ (Proc.devRef .tc Cert.KernelIdeal.main_v92)) (Φ₂ (Proc.devRef .tc Cert.ReferenceIdeal.main_v92)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 30) rfl) :) e131 e134 e74
  have e136 : @Eq ((⟨Cert.KernelIdeal.S_, .i32⟩ : BufTy).Contents (Elt F)) (Φ₁ (Proc.devRef .tc Cert.KernelIdeal.main_c_56)) (Φ₂ (Proc.devRef .tc Cert.ReferenceIdeal.main_c_56)) := step0 (β := ((⟨Cert.KernelIdeal.S_, .i32⟩ : BufTy).Contents (Elt F))) (eq0 (at_ fa8 (i := 61) rfl) :) (eq0 (at_ fb2 (i := 31) rfl) :)
  have e137 : @Eq ((⟨Cert.KernelIdeal.S131072, .i32⟩ : BufTy).Contents (Elt F)) (Φ₁ (Proc.devRef .tc Cert.KernelIdeal.main_v93)) (Φ₂ (Proc.devRef .tc Cert.ReferenceIdeal.main_v93)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 32) rfl) :) e136
  have e138 : @Eq ((⟨Cert.KernelIdeal.S131072, .i1⟩ : BufTy).Contents (Elt F)) (Φ₁ (Proc.devRef .tc Cert.KernelIdeal.main_v94)) (Φ₂ (Proc.devRef .tc Cert.ReferenceIdeal.main_v94)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 33) rfl) :) e54 e137
  have e139 : @Eq ((⟨Cert.KernelIdeal.S_, .i32⟩ : BufTy).Contents (Elt F)) (Φ₁ (Proc.devRef .tc Cert.KernelIdeal.main_c_57)) (Φ₂ (Proc.devRef .tc Cert.ReferenceIdeal.main_c_57)) := step0 (β := ((⟨Cert.KernelIdeal.S_, .i32⟩ : BufTy).Contents (Elt F))) (eq0 (at_ fa8 (i := 64) rfl) :) (eq0 (at_ fb2 (i := 34) rfl) :)
  have e140 : @Eq ((⟨Cert.KernelIdeal.S131072, .i32⟩ : BufTy).Contents (Elt F)) (Φ₁ (Proc.devRef .tc Cert.KernelIdeal.main_v95)) (Φ₂ (Proc.devRef .tc Cert.ReferenceIdeal.main_v95)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 35) rfl) :) e139
  have e141 : @Eq ((⟨Cert.KernelIdeal.S131072, .i32⟩ : BufTy).Contents (Elt F)) (Φ₁ (Proc.devRef .tc Cert.KernelIdeal.main_v96)) (Φ₂ (Proc.devRef .tc Cert.ReferenceIdeal.main_v96)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 36) rfl) :) e54 e140
  have e142 : @Eq ((⟨Cert.KernelIdeal.S131072, .i32⟩ : BufTy).Contents (Elt F)) (Φ₁ (Proc.devRef .tc Cert.KernelIdeal.main_v97)) (Φ₂ (Proc.devRef .tc Cert.ReferenceIdeal.main_v97)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 37) rfl) :) e138 e141 e54
  have e143 : @Eq ((⟨Cert.KernelIdeal.S131072x1, .i32⟩ : BufTy).Contents (Elt F)) (Φ₁ (Proc.devRef .tc Cert.KernelIdeal.main_v98)) (Φ₂ (Proc.devRef .tc Cert.ReferenceIdeal.main_v98)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 38) rfl) :) e135
  have e144 : @Eq ((⟨Cert.KernelIdeal.S131072x1, .i32⟩ : BufTy).Contents (Elt F)) (Φ₁ (Proc.devRef .tc Cert.KernelIdeal.main_v99)) (Φ₂ (Proc.devRef .tc Cert.ReferenceIdeal.main_v99)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 39) rfl) :) e142
  have e145 : @Eq ((⟨Cert.KernelIdeal.S131072x2, .i32⟩ : BufTy).Contents (Elt F)) (Φ₁ (Proc.devRef .tc Cert.KernelIdeal.main_v100)) (Φ₂ (Proc.devRef .tc Cert.ReferenceIdeal.main_v100)) := by rw [eq2 (at_ fa8 (i := 70) rfl), eq2 (at_ fb2 (i := 40) rfl), e143, e144] <;> rfl
  have e146 : @Eq ((⟨Cert.KernelIdeal.S32x131072, .f32⟩ : BufTy).Contents (Elt F)) (Φ₁ (Proc.devRef .tc Cert.KernelIdeal.main_v101)) (Φ₂ (Proc.devRef .tc Cert.ReferenceIdeal.main_v101)) := by rw [eq2 (at_ fa8 (i := 71) rfl), eq2 (at_ fb2 (i := 41) rfl), x2, e145] <;> rfl
  have e147 : @Eq ((⟨Cert.KernelIdeal.S_, .f32⟩ : BufTy).Contents (Elt F)) (Φ₁ (Proc.devRef .tc Cert.KernelIdeal.main_cst_58)) (Φ₂ (Proc.devRef .tc Cert.ReferenceIdeal.main_cst_58)) := step0 (β := ((⟨Cert.KernelIdeal.S_, .f32⟩ : BufTy).Contents (Elt F))) (eq0 (at_ fa8 (i := 72) rfl) :) (eq0 (at_ fb2 (i := 42) rfl) :)
  have e148 : @Eq ((⟨Cert.KernelIdeal.S131072, .f32⟩ : BufTy).Contents (Elt F)) (Φ₁ (Proc.devRef .tc Cert.KernelIdeal.main_v102)) (Φ₂ (Proc.devRef .tc Cert.ReferenceIdeal.main_v102)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 43) rfl) :) e147
  have e149 : @Eq ((⟨Cert.KernelIdeal.S131072, .f32⟩ : BufTy).Contents (Elt F)) (Φ₁ (Proc.devRef .tc Cert.KernelIdeal.main_v103)) (Φ₂ (Proc.devRef .tc Cert.ReferenceIdeal.main_v103)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 44) rfl) :) e148 e33
  have e150 : @Eq ((⟨Cert.KernelIdeal.S1x131072, .f32⟩ : BufTy).Contents (Elt F)) (Φ₁ (Proc.devRef .tc Cert.KernelIdeal.main_v104)) (Φ₂ (Proc.devRef .tc Cert.ReferenceIdeal.main_v104)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 45) rfl) :) e149
  have e151 : @Eq ((⟨Cert.KernelIdeal.S32x131072, .f32⟩ : BufTy).Contents (Elt F)) (Φ₁ (Proc.devRef .tc Cert.KernelIdeal.main_v105)) (Φ₂ (Proc.devRef .tc Cert.ReferenceIdeal.main_v105)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 46) rfl) :) e150
  have e152 : @Eq ((⟨Cert.KernelIdeal.S32x131072, .f32⟩ : BufTy).Contents (Elt F)) (Φ₁ (Proc.devRef .tc Cert.KernelIdeal.main_v106)) (Φ₂ (Proc.devRef .tc Cert.ReferenceIdeal.main_v106)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 47) rfl) :) e92 e151
  have e153 : @Eq ((⟨Cert.KernelIdeal.S_, .f32⟩ : BufTy).Contents (Elt F)) (Φ₁ (Proc.devRef .tc Cert.KernelIdeal.main_cst_59)) (Φ₂ (Proc.devRef .tc Cert.ReferenceIdeal.main_cst_59)) := step0 (β := ((⟨Cert.KernelIdeal.S_, .f32⟩ : BufTy).Contents (Elt F))) (eq0 (at_ fa8 (i := 78) rfl) :) (eq0 (at_ fb2 (i := 48) rfl) :)
  have e154 : @Eq ((⟨Cert.KernelIdeal.S131072, .f32⟩ : BufTy).Contents (Elt F)) (Φ₁ (Proc.devRef .tc Cert.KernelIdeal.main_v107)) (Φ₂ (Proc.devRef .tc Cert.ReferenceIdeal.main_v107)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 49) rfl) :) e153
  have e155 : @Eq ((⟨Cert.KernelIdeal.S131072, .f32⟩ : BufTy).Contents (Elt F)) (Φ₁ (Proc.devRef .tc Cert.KernelIdeal.main_v108)) (Φ₂ (Proc.devRef .tc Cert.ReferenceIdeal.main_v108)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 50) rfl) :) e154 e34
  have e156 : @Eq ((⟨Cert.KernelIdeal.S1x131072, .f32⟩ : BufTy).Contents (Elt F)) (Φ₁ (Proc.devRef .tc Cert.KernelIdeal.main_v109)) (Φ₂ (Proc.devRef .tc Cert.ReferenceIdeal.main_v109)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 51) rfl) :) e155
  have e157 : @Eq ((⟨Cert.KernelIdeal.S32x131072, .f32⟩ : BufTy).Contents (Elt F)) (Φ₁ (Proc.devRef .tc Cert.KernelIdeal.main_v110)) (Φ₂ (Proc.devRef .tc Cert.ReferenceIdeal.main_v110)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 52) rfl) :) e156
  have e158 : @Eq ((⟨Cert.KernelIdeal.S32x131072, .f32⟩ : BufTy).Contents (Elt F)) (Φ₁ (Proc.devRef .tc Cert.KernelIdeal.main_v111)) (Φ₂ (Proc.devRef .tc Cert.ReferenceIdeal.main_v111)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 53) rfl) :) e152 e157
  have e159 : @Eq ((⟨Cert.KernelIdeal.S1x131072, .f32⟩ : BufTy).Contents (Elt F)) (Φ₁ (Proc.devRef .tc Cert.KernelIdeal.main_v112)) (Φ₂ (Proc.devRef .tc Cert.ReferenceIdeal.main_v112)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 54) rfl) :) e33
  have e160 : @Eq ((⟨Cert.KernelIdeal.S32x131072, .f32⟩ : BufTy).Contents (Elt F)) (Φ₁ (Proc.devRef .tc Cert.KernelIdeal.main_v113)) (Φ₂ (Proc.devRef .tc Cert.ReferenceIdeal.main_v113)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 55) rfl) :) e159
  have e161 : @Eq ((⟨Cert.KernelIdeal.S32x131072, .f32⟩ : BufTy).Contents (Elt F)) (Φ₁ (Proc.devRef .tc Cert.KernelIdeal.main_v114)) (Φ₂ (Proc.devRef .tc Cert.ReferenceIdeal.main_v114)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 56) rfl) :) e110 e160
  have e162 : @Eq ((⟨Cert.KernelIdeal.S_, .f32⟩ : BufTy).Contents (Elt F)) (Φ₁ (Proc.devRef .tc Cert.KernelIdeal.main_cst_60)) (Φ₂ (Proc.devRef .tc Cert.ReferenceIdeal.main_cst_60)) := step0 (β := ((⟨Cert.KernelIdeal.S_, .f32⟩ : BufTy).Contents (Elt F))) (eq0 (at_ fa8 (i := 87) rfl) :) (eq0 (at_ fb2 (i := 57) rfl) :)
  have e163 : @Eq ((⟨Cert.KernelIdeal.S131072, .f32⟩ : BufTy).Contents (Elt F)) (Φ₁ (Proc.devRef .tc Cert.KernelIdeal.main_v115)) (Φ₂ (Proc.devRef .tc Cert.ReferenceIdeal.main_v115)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 58) rfl) :) e162
  have e164 : @Eq ((⟨Cert.KernelIdeal.S131072, .f32⟩ : BufTy).Contents (Elt F)) (Φ₁ (Proc.devRef .tc Cert.KernelIdeal.main_v116)) (Φ₂ (Proc.devRef .tc Cert.ReferenceIdeal.main_v116)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 59) rfl) :) e163 e34
  have e165 : @Eq ((⟨Cert.KernelIdeal.S1x131072, .f32⟩ : BufTy).Contents (Elt F)) (Φ₁ (Proc.devRef .tc Cert.KernelIdeal.main_v117)) (Φ₂ (Proc.devRef .tc Cert.ReferenceIdeal.main_v117)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 0) rfl) :) e164
  have e166 : @Eq ((⟨Cert.KernelIdeal.S32x131072, .f32⟩ : BufTy).Contents (Elt F)) (Φ₁ (Proc.devRef .tc Cert.KernelIdeal.main_v118)) (Φ₂ (Proc.devRef .tc Cert.ReferenceIdeal.main_v118)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 1) rfl) :) e165
  have e167 : @Eq ((⟨Cert.KernelIdeal.S32x131072, .f32⟩ : BufTy).Contents (Elt F)) (Φ₁ (Proc.devRef .tc Cert.KernelIdeal.main_v119)) (Φ₂ (Proc.devRef .tc Cert.ReferenceIdeal.main_v119)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 2) rfl) :) e161 e166
  have e168 : @Eq ((⟨Cert.KernelIdeal.S32x131072, .f32⟩ : BufTy).Contents (Elt F)) (Φ₁ (Proc.devRef .tc Cert.KernelIdeal.main_v120)) (Φ₂ (Proc.devRef .tc Cert.ReferenceIdeal.main_v120)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 3) rfl) :) e158 e167
  have e169 : @Eq ((⟨Cert.KernelIdeal.S_, .f32⟩ : BufTy).Contents (Elt F)) (Φ₁ (Proc.devRef .tc Cert.KernelIdeal.main_cst_61)) (Φ₂ (Proc.devRef .tc Cert.ReferenceIdeal.main_cst_61)) := step0 (β := ((⟨Cert.KernelIdeal.S_, .f32⟩ : BufTy).Contents (Elt F))) (eq0 (at_ fa8 (i := 94) rfl) :) (eq0 (at_ fb3 (i := 4) rfl) :)
  have e170 : @Eq ((⟨Cert.KernelIdeal.S131072, .f32⟩ : BufTy).Contents (Elt F)) (Φ₁ (Proc.devRef .tc Cert.KernelIdeal.main_v121)) (Φ₂ (Proc.devRef .tc Cert.ReferenceIdeal.main_v121)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 5) rfl) :) e169
  have e171 : @Eq ((⟨Cert.KernelIdeal.S131072, .f32⟩ : BufTy).Contents (Elt F)) (Φ₁ (Proc.devRef .tc Cert.KernelIdeal.main_v122)) (Φ₂ (Proc.devRef .tc Cert.ReferenceIdeal.main_v122)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 6) rfl) :) e170 e33
  have e172 : @Eq ((⟨Cert.KernelIdeal.S1x131072, .f32⟩ : BufTy).Contents (Elt F)) (Φ₁ (Proc.devRef .tc Cert.KernelIdeal.main_v123)) (Φ₂ (Proc.devRef .tc Cert.ReferenceIdeal.main_v123)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 7) rfl) :) e171
  have e173 : @Eq ((⟨Cert.KernelIdeal.S32x131072, .f32⟩ : BufTy).Contents (Elt F)) (Φ₁ (Proc.devRef .tc Cert.KernelIdeal.main_v124)) (Φ₂ (Proc.devRef .tc Cert.ReferenceIdeal.main_v124)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 8) rfl) :) e172
  have e174 : @Eq ((⟨Cert.KernelIdeal.S32x131072, .f32⟩ : BufTy).Contents (Elt F)) (Φ₁ (Proc.devRef .tc Cert.KernelIdeal.main_v125)) (Φ₂ (Proc.devRef .tc Cert.ReferenceIdeal.main_v125)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 9) rfl) :) e128 e173
  have e175 : @Eq ((⟨Cert.KernelIdeal.S1x131072, .f32⟩ : BufTy).Contents (Elt F)) (Φ₁ (Proc.devRef .tc Cert.KernelIdeal.main_v126)) (Φ₂ (Proc.devRef .tc Cert.ReferenceIdeal.main_v126)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 10) rfl) :) e34
  have e176 : @Eq ((⟨Cert.KernelIdeal.S32x131072, .f32⟩ : BufTy).Contents (Elt F)) (Φ₁ (Proc.devRef .tc Cert.KernelIdeal.main_v127)) (Φ₂ (Proc.devRef .tc Cert.ReferenceIdeal.main_v127)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 11) rfl) :) e175
  have e177 : @Eq ((⟨Cert.KernelIdeal.S32x131072, .f32⟩ : BufTy).Contents (Elt F)) (Φ₁ (Proc.devRef .tc Cert.KernelIdeal.main_v128)) (Φ₂ (Proc.devRef .tc Cert.ReferenceIdeal.main_v128)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 12) rfl) :) e174 e176
  have e178 : @Eq ((⟨Cert.KernelIdeal.S32x131072, .f32⟩ : BufTy).Contents (Elt F)) (Φ₁ (Proc.devRef .tc Cert.KernelIdeal.main_v129)) (Φ₂ (Proc.devRef .tc Cert.ReferenceIdeal.main_v129)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 13) rfl) :) e168 e177
  have e179 : @Eq ((⟨Cert.KernelIdeal.S1x131072, .f32⟩ : BufTy).Contents (Elt F)) (Φ₁ (Proc.devRef .tc Cert.KernelIdeal.main_v130)) (Φ₂ (Proc.devRef .tc Cert.ReferenceIdeal.main_v130)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 14) rfl) :) e33
  have e180 : @Eq ((⟨Cert.KernelIdeal.S32x131072, .f32⟩ : BufTy).Contents (Elt F)) (Φ₁ (Proc.devRef .tc Cert.KernelIdeal.main_v131)) (Φ₂ (Proc.devRef .tc Cert.ReferenceIdeal.main_v131)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 15) rfl) :) e179
  have e181 : @Eq ((⟨Cert.KernelIdeal.S32x131072, .f32⟩ : BufTy).Contents (Elt F)) (Φ₁ (Proc.devRef .tc Cert.KernelIdeal.main_v132)) (Φ₂ (Proc.devRef .tc Cert.ReferenceIdeal.main_v132)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 16) rfl) :) e146 e180
  have e182 : @Eq ((⟨Cert.KernelIdeal.S1x131072, .f32⟩ : BufTy).Contents (Elt F)) (Φ₁ (Proc.devRef .tc Cert.KernelIdeal.main_v133)) (Φ₂ (Proc.devRef .tc Cert.ReferenceIdeal.main_v133)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 17) rfl) :) e34
  have e183 : @Eq ((⟨Cert.KernelIdeal.S32x131072, .f32⟩ : BufTy).Contents (Elt F)) (Φ₁ (Proc.devRef .tc Cert.KernelIdeal.main_v134)) (Φ₂ (Proc.devRef .tc Cert.ReferenceIdeal.main_v134)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 18) rfl) :) e182
  have e184 : @Eq ((⟨Cert.KernelIdeal.S32x131072, .f32⟩ : BufTy).Contents (Elt F)) (Φ₁ (Proc.devRef .tc Cert.KernelIdeal.main_v135)) (Φ₂ (Proc.devRef .tc Cert.ReferenceIdeal.main_v135)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 19) rfl) :) e181 e183
  have e185 : @Eq ((⟨Cert.KernelIdeal.S32x131072, .f32⟩ : BufTy).Contents (Elt F)) (Φ₁ (Proc.devRef .tc Cert.KernelIdeal.main_v136)) (Φ₂ (Proc.devRef .tc Cert.ReferenceIdeal.main_v136)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 20) rfl) :) e178 e184
  have e186 : @Eq ((⟨Cert.KernelIdeal.S131072x32, .f32⟩ : BufTy).Contents (Elt F)) (Φ₁ (Proc.devRef .tc Cert.KernelIdeal.main_v137)) (Φ₂ (Proc.devRef .tc Cert.ReferenceIdeal.main_v137)) := by rw [eq1 (at_ fa8 (i := 111) rfl), eq1 (at_ fb3 (i := 21) rfl), e185] <;> rfl
  exact e186

end Cert.Bridge

end
-- ==== Proof.SimB1.lean ====
/- Operations 222 … 408 of the one program and 222 … 408 of the other apply the same functions to corresponding
   buffers. If both programs' final contents satisfy their own lines' equations and agree on the buffers these operations
   read from outside, they agree on what these operations write: one congruence per operation, in program order. -/
import proofs.«133805_j10187662426200_2_alg».proof.Proof.KIStretch0
import proofs.«133805_j10187662426200_2_alg».proof.Proof.RefOps0
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B1 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_8 : List (HloOp Cert.KernelIdeal.τ Cert.KernelIdeal.sig (Elt F))).Forall fun op => ∀ b ∈ op.writes, Φ₁ b = op.result Φ₁ b)
    (fa1 : (Cert.KernelIdeal.Gen.hostOps0_9 : List (HloOp Cert.KernelIdeal.τ Cert.KernelIdeal.sig (Elt F))).Forall fun op => ∀ b ∈ op.writes, Φ₁ b = op.result Φ₁ b)
    (fa2 : (Cert.KernelIdeal.Gen.hostOps0_10 : List (HloOp Cert.KernelIdeal.τ Cert.KernelIdeal.sig (Elt F))).Forall fun op => ∀ b ∈ op.writes, Φ₁ b = op.result Φ₁ b)
    (fa3 : (Cert.KernelIdeal.Gen.hostOps0_11 : List (HloOp Cert.KernelIdeal.τ Cert.KernelIdeal.sig (Elt F))).Forall fun op => ∀ b ∈ op.writes, Φ₁ b = op.result Φ₁ b)
    (fa4 : (Cert.KernelIdeal.Gen.hostOps0_12 : List (HloOp Cert.KernelIdeal.τ Cert.KernelIdeal.sig (Elt F))).Forall fun op => ∀ b ∈ op.writes, Φ₁ b = op.result Φ₁ b)
    (fa5 : (Cert.KernelIdeal.Gen.hostOps0_13 : List (HloOp Cert.KernelIdeal.τ Cert.KernelIdeal.sig (Elt F))).Forall fun op => ∀ b ∈ op.writes, Φ₁ b = op.result Φ₁ b)
    (fa6 : (Cert.KernelIdeal.Gen.hostOps0_14 : List (HloOp Cert.KernelIdeal.τ Cert.KernelIdeal.sig (Elt F))).Forall fun op => ∀ b ∈ op.writes, Φ₁ b = op.result Φ₁ b)
    (fa7 : (Cert.KernelIdeal.Gen.hostOps0_15 : List (HloOp Cert.KernelIdeal.τ Cert.KernelIdeal.sig (Elt F))).Forall fun op => ∀ b ∈ op.writes, Φ₁ b = op.result Φ₁ b)
    (fa8 : (Cert.KernelIdeal.Gen.hostOps0_16 : List (HloOp Cert.KernelIdeal.τ Cert.KernelIdeal.sig (Elt F))).Forall fun op => ∀ b ∈ op.writes, Φ₁ b = op.result Φ₁ b)
    (fb0 : (Cert.ReferenceIdeal.Ops.w3 : List (HloOp Cert.ReferenceIdeal.τ Cert.ReferenceIdeal.sig (Elt F))).Forall fun op => ∀ b ∈ op.writes, Φ₂ b = op.result Φ₂ b)
    (fb1 : (Cert.ReferenceIdeal.Ops.w4 : List (HloOp Cert.ReferenceIdeal.τ Cert.ReferenceIdeal.sig (Elt F))).Forall fun op => ∀ b ∈ op.writes, Φ₂ b = op.result Φ₂ b)
    (fb2 : (Cert.ReferenceIdeal.Ops.w5 : List (HloOp Cert.ReferenceIdeal.τ Cert.ReferenceIdeal.sig (Elt F))).Forall fun op => ∀ b ∈ op.writes, Φ₂ b = op.result Φ₂ b)
    (fb3 : (Cert.ReferenceIdeal.Ops.w6 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_0)) (Φ₂ (Proc.devRef .tc Cert.ReferenceIdeal.main_c_0)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x64x64, .f32⟩ : BufTy).Contents (Elt F)) (Φ₁ (Proc.devRef .tc Cert.KernelIdeal.main_arg3)) (Φ₂ (Proc.devRef .tc Cert.ReferenceIdeal.main_arg3)))
    : @Eq ((⟨Cert.KernelIdeal.S131072x32, .f32⟩ : BufTy).Contents (Elt F)) (Φ₁ (Proc.devRef .tc Cert.KernelIdeal.main_v266)) (Φ₂ (Proc.devRef .tc Cert.ReferenceIdeal.main_v266)) := by
  have e0 : @Eq ((⟨Cert.KernelIdeal.S_, .i32⟩ : BufTy).Contents (Elt F)) (Φ₁ (Proc.devRef .tc Cert.KernelIdeal.main_c_62)) (Φ₂ (Proc.devRef .tc Cert.ReferenceIdeal.main_c_62)) := step0 (β := ((⟨Cert.KernelIdeal.S_, .i32⟩ : BufTy).Contents (Elt F))) (eq0 (at_ fa0 (i := 112) rfl) :) (eq0 (at_ fb0 (i := 22) rfl) :)
  have e1 : @Eq ((⟨Cert.KernelIdeal.S2, .i32⟩ : BufTy).Contents (Elt F)) (Φ₁ (Proc.devRef .tc Cert.KernelIdeal.main_v138)) (Φ₂ (Proc.devRef .tc Cert.ReferenceIdeal.main_v138)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 23) rfl) :) e0
  have e2 : @Eq ((⟨Cert.KernelIdeal.S2, .i1⟩ : BufTy).Contents (Elt F)) (Φ₁ (Proc.devRef .tc Cert.KernelIdeal.main_v139)) (Φ₂ (Proc.devRef .tc Cert.ReferenceIdeal.main_v139)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 24) rfl) :) x0 e1
  have e3 : @Eq ((⟨Cert.KernelIdeal.S_, .i32⟩ : BufTy).Contents (Elt F)) (Φ₁ (Proc.devRef .tc Cert.KernelIdeal.main_c_63)) (Φ₂ (Proc.devRef .tc Cert.ReferenceIdeal.main_c_63)) := step0 (β := ((⟨Cert.KernelIdeal.S_, .i32⟩ : BufTy).Contents (Elt F))) (eq0 (at_ fa0 (i := 115) rfl) :) (eq0 (at_ fb0 (i := 25) rfl) :)
  have e4 : @Eq ((⟨Cert.KernelIdeal.S2, .i32⟩ : BufTy).Contents (Elt F)) (Φ₁ (Proc.devRef .tc Cert.KernelIdeal.main_v140)) (Φ₂ (Proc.devRef .tc Cert.ReferenceIdeal.main_v140)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 26) rfl) :) e3
  have e5 : @Eq ((⟨Cert.KernelIdeal.S2, .i32⟩ : BufTy).Contents (Elt F)) (Φ₁ (Proc.devRef .tc Cert.KernelIdeal.main_v141)) (Φ₂ (Proc.devRef .tc Cert.ReferenceIdeal.main_v141)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 27) rfl) :) x0 e4
  have e6 : @Eq ((⟨Cert.KernelIdeal.S2, .i32⟩ : BufTy).Contents (Elt F)) (Φ₁ (Proc.devRef .tc Cert.KernelIdeal.main_v142)) (Φ₂ (Proc.devRef .tc Cert.ReferenceIdeal.main_v142)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 28) rfl) :) e2 e5 x0
  have e7 : @Eq ((⟨Cert.KernelIdeal.S2x1, .i32⟩ : BufTy).Contents (Elt F)) (Φ₁ (Proc.devRef .tc Cert.KernelIdeal.main_v143)) (Φ₂ (Proc.devRef .tc Cert.ReferenceIdeal.main_v143)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 29) rfl) :) e6
  have e8 : @Eq ((⟨Cert.KernelIdeal.S131072x2, .f32⟩ : BufTy).Contents (Elt F)) (Φ₁ (Proc.devRef .tc Cert.KernelIdeal.main_v144)) (Φ₂ (Proc.devRef .tc Cert.ReferenceIdeal.main_v144)) := by rw [eq2 (at_ fa0 (i := 120) rfl), eq2 (at_ fb0 (i := 30) rfl), x1, e7] <;> rfl
  have e9 : @Eq ((⟨Cert.KernelIdeal.S131072x1, .f32⟩ : BufTy).Contents (Elt F)) (Φ₁ (Proc.devRef .tc Cert.KernelIdeal.main_v145)) (Φ₂ (Proc.devRef .tc Cert.ReferenceIdeal.main_v145)) := by rw [eq1 (at_ fa0 (i := 121) rfl), eq1 (at_ fb0 (i := 31) rfl), e8] <;> rfl
  have e10 : @Eq ((⟨Cert.KernelIdeal.S131072, .f32⟩ : BufTy).Contents (Elt F)) (Φ₁ (Proc.devRef .tc Cert.KernelIdeal.main_v146)) (Φ₂ (Proc.devRef .tc Cert.ReferenceIdeal.main_v146)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 32) rfl) :) e9
  have e11 : @Eq ((⟨Cert.KernelIdeal.S_, .f32⟩ : BufTy).Contents (Elt F)) (Φ₁ (Proc.devRef .tc Cert.KernelIdeal.main_cst_64)) (Φ₂ (Proc.devRef .tc Cert.ReferenceIdeal.main_cst_64)) := step0 (β := ((⟨Cert.KernelIdeal.S_, .f32⟩ : BufTy).Contents (Elt F))) (eq0 (at_ fa0 (i := 123) rfl) :) (eq0 (at_ fb0 (i := 33) rfl) :)
  have e12 : @Eq ((⟨Cert.KernelIdeal.S131072, .f32⟩ : BufTy).Contents (Elt F)) (Φ₁ (Proc.devRef .tc Cert.KernelIdeal.main_v147)) (Φ₂ (Proc.devRef .tc Cert.ReferenceIdeal.main_v147)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 34) rfl) :) e11
  have e13 : @Eq ((⟨Cert.KernelIdeal.S131072, .f32⟩ : BufTy).Contents (Elt F)) (Φ₁ (Proc.devRef .tc Cert.KernelIdeal.main_v148)) (Φ₂ (Proc.devRef .tc Cert.ReferenceIdeal.main_v148)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 35) rfl) :) e10 e12
  have e14 : @Eq ((⟨Cert.KernelIdeal.S_, .f32⟩ : BufTy).Contents (Elt F)) (Φ₁ (Proc.devRef .tc Cert.KernelIdeal.main_cst_65)) (Φ₂ (Proc.devRef .tc Cert.ReferenceIdeal.main_cst_65)) := step0 (β := ((⟨Cert.KernelIdeal.S_, .f32⟩ : BufTy).Contents (Elt F))) (eq0 (at_ fa0 (i := 126) rfl) :) (eq0 (at_ fb0 (i := 36) rfl) :)
  have e15 : @Eq ((⟨Cert.KernelIdeal.S131072, .f32⟩ : BufTy).Contents (Elt F)) (Φ₁ (Proc.devRef .tc Cert.KernelIdeal.main_v149)) (Φ₂ (Proc.devRef .tc Cert.ReferenceIdeal.main_v149)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 37) rfl) :) e14
  have e16 : @Eq ((⟨Cert.KernelIdeal.S131072, .f32⟩ : BufTy).Contents (Elt F)) (Φ₁ (Proc.devRef .tc Cert.KernelIdeal.main_v150)) (Φ₂ (Proc.devRef .tc Cert.ReferenceIdeal.main_v150)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 38) rfl) :) e13 e15
  have e17 : @Eq ((⟨Cert.KernelIdeal.S_, .f32⟩ : BufTy).Contents (Elt F)) (Φ₁ (Proc.devRef .tc Cert.KernelIdeal.main_cst_66)) (Φ₂ (Proc.devRef .tc Cert.ReferenceIdeal.main_cst_66)) := step0 (β := ((⟨Cert.KernelIdeal.S_, .f32⟩ : BufTy).Contents (Elt F))) (eq0 (at_ fa0 (i := 129) rfl) :) (eq0 (at_ fb0 (i := 39) rfl) :)
  have e18 : @Eq ((⟨Cert.KernelIdeal.S131072, .f32⟩ : BufTy).Contents (Elt F)) (Φ₁ (Proc.devRef .tc Cert.KernelIdeal.main_v151)) (Φ₂ (Proc.devRef .tc Cert.ReferenceIdeal.main_v151)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 40) rfl) :) e17
  have e19 : @Eq ((⟨Cert.KernelIdeal.S131072, .f32⟩ : BufTy).Contents (Elt F)) (Φ₁ (Proc.devRef .tc Cert.KernelIdeal.main_v152)) (Φ₂ (Proc.devRef .tc Cert.ReferenceIdeal.main_v152)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 41) rfl) :) e16 e18
  have e20 : @Eq ((⟨Cert.KernelIdeal.S131072x1, .f32⟩ : BufTy).Contents (Elt F)) (Φ₁ (Proc.devRef .tc Cert.KernelIdeal.main_v153)) (Φ₂ (Proc.devRef .tc Cert.ReferenceIdeal.main_v153)) := by rw [eq1 (at_ fa0 (i := 132) rfl), eq1 (at_ fb0 (i := 42) rfl), e8] <;> rfl
  have e21 : @Eq ((⟨Cert.KernelIdeal.S131072, .f32⟩ : BufTy).Contents (Elt F)) (Φ₁ (Proc.devRef .tc Cert.KernelIdeal.main_v154)) (Φ₂ (Proc.devRef .tc Cert.ReferenceIdeal.main_v154)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 43) rfl) :) e20
  have e22 : @Eq ((⟨Cert.KernelIdeal.S_, .f32⟩ : BufTy).Contents (Elt F)) (Φ₁ (Proc.devRef .tc Cert.KernelIdeal.main_cst_67)) (Φ₂ (Proc.devRef .tc Cert.ReferenceIdeal.main_cst_67)) := step0 (β := ((⟨Cert.KernelIdeal.S_, .f32⟩ : BufTy).Contents (Elt F))) (eq0 (at_ fa0 (i := 134) rfl) :) (eq0 (at_ fb0 (i := 44) rfl) :)
  have e23 : @Eq ((⟨Cert.KernelIdeal.S131072, .f32⟩ : BufTy).Contents (Elt F)) (Φ₁ (Proc.devRef .tc Cert.KernelIdeal.main_v155)) (Φ₂ (Proc.devRef .tc Cert.ReferenceIdeal.main_v155)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 45) rfl) :) e22
  have e24 : @Eq ((⟨Cert.KernelIdeal.S131072, .f32⟩ : BufTy).Contents (Elt F)) (Φ₁ (Proc.devRef .tc Cert.KernelIdeal.main_v156)) (Φ₂ (Proc.devRef .tc Cert.ReferenceIdeal.main_v156)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 46) rfl) :) e21 e23
  have e25 : @Eq ((⟨Cert.KernelIdeal.S_, .f32⟩ : BufTy).Contents (Elt F)) (Φ₁ (Proc.devRef .tc Cert.KernelIdeal.main_cst_68)) (Φ₂ (Proc.devRef .tc Cert.ReferenceIdeal.main_cst_68)) := step0 (β := ((⟨Cert.KernelIdeal.S_, .f32⟩ : BufTy).Contents (Elt F))) (eq0 (at_ fa0 (i := 137) rfl) :) (eq0 (at_ fb0 (i := 47) rfl) :)
  have e26 : @Eq ((⟨Cert.KernelIdeal.S131072, .f32⟩ : BufTy).Contents (Elt F)) (Φ₁ (Proc.devRef .tc Cert.KernelIdeal.main_v157)) (Φ₂ (Proc.devRef .tc Cert.ReferenceIdeal.main_v157)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 48) rfl) :) e25
  have e27 : @Eq ((⟨Cert.KernelIdeal.S131072, .f32⟩ : BufTy).Contents (Elt F)) (Φ₁ (Proc.devRef .tc Cert.KernelIdeal.main_v158)) (Φ₂ (Proc.devRef .tc Cert.ReferenceIdeal.main_v158)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 49) rfl) :) e24 e26
  have e28 : @Eq ((⟨Cert.KernelIdeal.S_, .f32⟩ : BufTy).Contents (Elt F)) (Φ₁ (Proc.devRef .tc Cert.KernelIdeal.main_cst_69)) (Φ₂ (Proc.devRef .tc Cert.ReferenceIdeal.main_cst_69)) := step0 (β := ((⟨Cert.KernelIdeal.S_, .f32⟩ : BufTy).Contents (Elt F))) (eq0 (at_ fa0 (i := 140) rfl) :) (eq0 (at_ fb0 (i := 50) rfl) :)
  have e29 : @Eq ((⟨Cert.KernelIdeal.S131072, .f32⟩ : BufTy).Contents (Elt F)) (Φ₁ (Proc.devRef .tc Cert.KernelIdeal.main_v159)) (Φ₂ (Proc.devRef .tc Cert.ReferenceIdeal.main_v159)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 51) rfl) :) e28
  have e30 : @Eq ((⟨Cert.KernelIdeal.S131072, .f32⟩ : BufTy).Contents (Elt F)) (Φ₁ (Proc.devRef .tc Cert.KernelIdeal.main_v160)) (Φ₂ (Proc.devRef .tc Cert.ReferenceIdeal.main_v160)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 52) rfl) :) e27 e29
  have e31 : @Eq ((⟨Cert.KernelIdeal.S131072, .f32⟩ : BufTy).Contents (Elt F)) (Φ₁ (Proc.devRef .tc Cert.KernelIdeal.main_v161)) (Φ₂ (Proc.devRef .tc Cert.ReferenceIdeal.main_v161)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 53) rfl) :) e19
  have e32 : @Eq ((⟨Cert.KernelIdeal.S131072, .f32⟩ : BufTy).Contents (Elt F)) (Φ₁ (Proc.devRef .tc Cert.KernelIdeal.main_v162)) (Φ₂ (Proc.devRef .tc Cert.ReferenceIdeal.main_v162)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 54) rfl) :) e30
  have e33 : @Eq ((⟨Cert.KernelIdeal.S131072, .f32⟩ : BufTy).Contents (Elt F)) (Φ₁ (Proc.devRef .tc Cert.KernelIdeal.main_v163)) (Φ₂ (Proc.devRef .tc Cert.ReferenceIdeal.main_v163)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 55) rfl) :) e19 e31
  have e34 : @Eq ((⟨Cert.KernelIdeal.S131072, .f32⟩ : BufTy).Contents (Elt F)) (Φ₁ (Proc.devRef .tc Cert.KernelIdeal.main_v164)) (Φ₂ (Proc.devRef .tc Cert.ReferenceIdeal.main_v164)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 56) rfl) :) e30 e32
  have e35 : @Eq ((⟨Cert.KernelIdeal.S131072, .i32⟩ : BufTy).Contents (Elt F)) (Φ₁ (Proc.devRef .tc Cert.KernelIdeal.main_v165)) (Φ₂ (Proc.devRef .tc Cert.ReferenceIdeal.main_v165)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 57) rfl) :) e31
  have e36 : @Eq ((⟨Cert.KernelIdeal.S_, .i32⟩ : BufTy).Contents (Elt F)) (Φ₁ (Proc.devRef .tc Cert.KernelIdeal.main_c_70)) (Φ₂ (Proc.devRef .tc Cert.ReferenceIdeal.main_c_70)) := step0 (β := ((⟨Cert.KernelIdeal.S_, .i32⟩ : BufTy).Contents (Elt F))) (eq0 (at_ fa0 (i := 148) rfl) :) (eq0 (at_ fb0 (i := 58) rfl) :)
  have e37 : @Eq ((⟨Cert.KernelIdeal.S_, .i32⟩ : BufTy).Contents (Elt F)) (Φ₁ (Proc.devRef .tc Cert.KernelIdeal.main_c_71)) (Φ₂ (Proc.devRef .tc Cert.ReferenceIdeal.main_c_71)) := step0 (β := ((⟨Cert.KernelIdeal.S_, .i32⟩ : BufTy).Contents (Elt F))) (eq0 (at_ fa0 (i := 149) rfl) :) (eq0 (at_ fb0 (i := 59) rfl) :)
  have e38 : @Eq ((⟨Cert.KernelIdeal.S_, .i32⟩ : BufTy).Contents (Elt F)) (Φ₁ (Proc.devRef .tc Cert.KernelIdeal.main_call4_v0)) (Φ₂ (Proc.devRef .tc Cert.ReferenceIdeal.main_call4_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 0) rfl) :) e36
  have e39 : @Eq ((⟨Cert.KernelIdeal.S131072, .i32⟩ : BufTy).Contents (Elt F)) (Φ₁ (Proc.devRef .tc Cert.KernelIdeal.main_call4_v1)) (Φ₂ (Proc.devRef .tc Cert.ReferenceIdeal.main_call4_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 1) rfl) :) e38
  have e40 : @Eq ((⟨Cert.KernelIdeal.S131072, .i32⟩ : BufTy).Contents (Elt F)) (Φ₁ (Proc.devRef .tc Cert.KernelIdeal.main_call4_v2)) (Φ₂ (Proc.devRef .tc Cert.ReferenceIdeal.main_call4_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 2) rfl) :) e39 e35
  have e41 : @Eq ((⟨Cert.KernelIdeal.S_, .i32⟩ : BufTy).Contents (Elt F)) (Φ₁ (Proc.devRef .tc Cert.KernelIdeal.main_call4_v3)) (Φ₂ (Proc.devRef .tc Cert.ReferenceIdeal.main_call4_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 3) rfl) :) e37
  have e42 : @Eq ((⟨Cert.KernelIdeal.S131072, .i32⟩ : BufTy).Contents (Elt F)) (Φ₁ (Proc.devRef .tc Cert.KernelIdeal.main_call4_v4)) (Φ₂ (Proc.devRef .tc Cert.ReferenceIdeal.main_call4_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 4) rfl) :) e41
  have e43 : @Eq ((⟨Cert.KernelIdeal.S131072, .i32⟩ : BufTy).Contents (Elt F)) (Φ₁ (Proc.devRef .tc Cert.KernelIdeal.main_v166)) (Φ₂ (Proc.devRef .tc Cert.ReferenceIdeal.main_v166)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 5) rfl) :) e42 e40
  have e44 : @Eq ((⟨Cert.KernelIdeal.S_, .i32⟩ : BufTy).Contents (Elt F)) (Φ₁ (Proc.devRef .tc Cert.KernelIdeal.main_c_72)) (Φ₂ (Proc.devRef .tc Cert.ReferenceIdeal.main_c_72)) := step0 (β := ((⟨Cert.KernelIdeal.S_, .i32⟩ : BufTy).Contents (Elt F))) (eq0 (at_ fa2 (i := 0) rfl) :) (eq0 (at_ fb1 (i := 6) rfl) :)
  have e45 : @Eq ((⟨Cert.KernelIdeal.S131072, .i32⟩ : BufTy).Contents (Elt F)) (Φ₁ (Proc.devRef .tc Cert.KernelIdeal.main_v167)) (Φ₂ (Proc.devRef .tc Cert.ReferenceIdeal.main_v167)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 7) rfl) :) e44
  have e46 : @Eq ((⟨Cert.KernelIdeal.S131072, .i32⟩ : BufTy).Contents (Elt F)) (Φ₁ (Proc.devRef .tc Cert.KernelIdeal.main_v168)) (Φ₂ (Proc.devRef .tc Cert.ReferenceIdeal.main_v168)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 8) rfl) :) e43 e45
  have e47 : @Eq ((⟨Cert.KernelIdeal.S_, .i32⟩ : BufTy).Contents (Elt F)) (Φ₁ (Proc.devRef .tc Cert.KernelIdeal.main_c_73)) (Φ₂ (Proc.devRef .tc Cert.ReferenceIdeal.main_c_73)) := step0 (β := ((⟨Cert.KernelIdeal.S_, .i32⟩ : BufTy).Contents (Elt F))) (eq0 (at_ fa2 (i := 3) rfl) :) (eq0 (at_ fb1 (i := 9) rfl) :)
  have e48 : @Eq ((⟨Cert.KernelIdeal.S_, .i32⟩ : BufTy).Contents (Elt F)) (Φ₁ (Proc.devRef .tc Cert.KernelIdeal.main_c_74)) (Φ₂ (Proc.devRef .tc Cert.ReferenceIdeal.main_c_74)) := step0 (β := ((⟨Cert.KernelIdeal.S_, .i32⟩ : BufTy).Contents (Elt F))) (eq0 (at_ fa2 (i := 4) rfl) :) (eq0 (at_ fb1 (i := 10) rfl) :)
  have e49 : @Eq ((⟨Cert.KernelIdeal.S_, .i32⟩ : BufTy).Contents (Elt F)) (Φ₁ (Proc.devRef .tc Cert.KernelIdeal.main_call5_v0)) (Φ₂ (Proc.devRef .tc Cert.ReferenceIdeal.main_call5_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 11) rfl) :) e47
  have e50 : @Eq ((⟨Cert.KernelIdeal.S131072, .i32⟩ : BufTy).Contents (Elt F)) (Φ₁ (Proc.devRef .tc Cert.KernelIdeal.main_call5_v1)) (Φ₂ (Proc.devRef .tc Cert.ReferenceIdeal.main_call5_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 12) rfl) :) e49
  have e51 : @Eq ((⟨Cert.KernelIdeal.S131072, .i32⟩ : BufTy).Contents (Elt F)) (Φ₁ (Proc.devRef .tc Cert.KernelIdeal.main_call5_v2)) (Φ₂ (Proc.devRef .tc Cert.ReferenceIdeal.main_call5_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 13) rfl) :) e50 e46
  have e52 : @Eq ((⟨Cert.KernelIdeal.S_, .i32⟩ : BufTy).Contents (Elt F)) (Φ₁ (Proc.devRef .tc Cert.KernelIdeal.main_call5_v3)) (Φ₂ (Proc.devRef .tc Cert.ReferenceIdeal.main_call5_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 14) rfl) :) e48
  have e53 : @Eq ((⟨Cert.KernelIdeal.S131072, .i32⟩ : BufTy).Contents (Elt F)) (Φ₁ (Proc.devRef .tc Cert.KernelIdeal.main_call5_v4)) (Φ₂ (Proc.devRef .tc Cert.ReferenceIdeal.main_call5_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 15) rfl) :) e52
  have e54 : @Eq ((⟨Cert.KernelIdeal.S131072, .i32⟩ : BufTy).Contents (Elt F)) (Φ₁ (Proc.devRef .tc Cert.KernelIdeal.main_v169)) (Φ₂ (Proc.devRef .tc Cert.ReferenceIdeal.main_v169)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 16) rfl) :) e53 e51
  have e55 : @Eq ((⟨Cert.KernelIdeal.S131072, .i32⟩ : BufTy).Contents (Elt F)) (Φ₁ (Proc.devRef .tc Cert.KernelIdeal.main_v170)) (Φ₂ (Proc.devRef .tc Cert.ReferenceIdeal.main_v170)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 17) rfl) :) e32
  have e56 : @Eq ((⟨Cert.KernelIdeal.S_, .i32⟩ : BufTy).Contents (Elt F)) (Φ₁ (Proc.devRef .tc Cert.KernelIdeal.main_c_75)) (Φ₂ (Proc.devRef .tc Cert.ReferenceIdeal.main_c_75)) := step0 (β := ((⟨Cert.KernelIdeal.S_, .i32⟩ : BufTy).Contents (Elt F))) (eq0 (at_ fa4 (i := 1) rfl) :) (eq0 (at_ fb1 (i := 18) rfl) :)
  have e57 : @Eq ((⟨Cert.KernelIdeal.S_, .i32⟩ : BufTy).Contents (Elt F)) (Φ₁ (Proc.devRef .tc Cert.KernelIdeal.main_c_76)) (Φ₂ (Proc.devRef .tc Cert.ReferenceIdeal.main_c_76)) := step0 (β := ((⟨Cert.KernelIdeal.S_, .i32⟩ : BufTy).Contents (Elt F))) (eq0 (at_ fa4 (i := 2) rfl) :) (eq0 (at_ fb1 (i := 19) rfl) :)
  have e58 : @Eq ((⟨Cert.KernelIdeal.S_, .i32⟩ : BufTy).Contents (Elt F)) (Φ₁ (Proc.devRef .tc Cert.KernelIdeal.main_call6_v0)) (Φ₂ (Proc.devRef .tc Cert.ReferenceIdeal.main_call6_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 20) rfl) :) e56
  have e59 : @Eq ((⟨Cert.KernelIdeal.S131072, .i32⟩ : BufTy).Contents (Elt F)) (Φ₁ (Proc.devRef .tc Cert.KernelIdeal.main_call6_v1)) (Φ₂ (Proc.devRef .tc Cert.ReferenceIdeal.main_call6_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 21) rfl) :) e58
  have e60 : @Eq ((⟨Cert.KernelIdeal.S131072, .i32⟩ : BufTy).Contents (Elt F)) (Φ₁ (Proc.devRef .tc Cert.KernelIdeal.main_call6_v2)) (Φ₂ (Proc.devRef .tc Cert.ReferenceIdeal.main_call6_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 22) rfl) :) e59 e55
  have e61 : @Eq ((⟨Cert.KernelIdeal.S_, .i32⟩ : BufTy).Contents (Elt F)) (Φ₁ (Proc.devRef .tc Cert.KernelIdeal.main_call6_v3)) (Φ₂ (Proc.devRef .tc Cert.ReferenceIdeal.main_call6_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 23) rfl) :) e57
  have e62 : @Eq ((⟨Cert.KernelIdeal.S131072, .i32⟩ : BufTy).Contents (Elt F)) (Φ₁ (Proc.devRef .tc Cert.KernelIdeal.main_call6_v4)) (Φ₂ (Proc.devRef .tc Cert.ReferenceIdeal.main_call6_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 24) rfl) :) e61
  have e63 : @Eq ((⟨Cert.KernelIdeal.S131072, .i32⟩ : BufTy).Contents (Elt F)) (Φ₁ (Proc.devRef .tc Cert.KernelIdeal.main_v171)) (Φ₂ (Proc.devRef .tc Cert.ReferenceIdeal.main_v171)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 25) rfl) :) e62 e60
  have e64 : @Eq ((⟨Cert.KernelIdeal.S_, .i32⟩ : BufTy).Contents (Elt F)) (Φ₁ (Proc.devRef .tc Cert.KernelIdeal.main_c_77)) (Φ₂ (Proc.devRef .tc Cert.ReferenceIdeal.main_c_77)) := step0 (β := ((⟨Cert.KernelIdeal.S_, .i32⟩ : BufTy).Contents (Elt F))) (eq0 (at_ fa6 (i := 0) rfl) :) (eq0 (at_ fb1 (i := 26) rfl) :)
  have e65 : @Eq ((⟨Cert.KernelIdeal.S131072, .i32⟩ : BufTy).Contents (Elt F)) (Φ₁ (Proc.devRef .tc Cert.KernelIdeal.main_v172)) (Φ₂ (Proc.devRef .tc Cert.ReferenceIdeal.main_v172)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 27) rfl) :) e64
  have e66 : @Eq ((⟨Cert.KernelIdeal.S131072, .i32⟩ : BufTy).Contents (Elt F)) (Φ₁ (Proc.devRef .tc Cert.KernelIdeal.main_v173)) (Φ₂ (Proc.devRef .tc Cert.ReferenceIdeal.main_v173)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 28) rfl) :) e63 e65
  have e67 : @Eq ((⟨Cert.KernelIdeal.S_, .i32⟩ : BufTy).Contents (Elt F)) (Φ₁ (Proc.devRef .tc Cert.KernelIdeal.main_c_78)) (Φ₂ (Proc.devRef .tc Cert.ReferenceIdeal.main_c_78)) := step0 (β := ((⟨Cert.KernelIdeal.S_, .i32⟩ : BufTy).Contents (Elt F))) (eq0 (at_ fa6 (i := 3) rfl) :) (eq0 (at_ fb1 (i := 29) rfl) :)
  have e68 : @Eq ((⟨Cert.KernelIdeal.S_, .i32⟩ : BufTy).Contents (Elt F)) (Φ₁ (Proc.devRef .tc Cert.KernelIdeal.main_c_79)) (Φ₂ (Proc.devRef .tc Cert.ReferenceIdeal.main_c_79)) := step0 (β := ((⟨Cert.KernelIdeal.S_, .i32⟩ : BufTy).Contents (Elt F))) (eq0 (at_ fa6 (i := 4) rfl) :) (eq0 (at_ fb1 (i := 30) rfl) :)
  have e69 : @Eq ((⟨Cert.KernelIdeal.S_, .i32⟩ : BufTy).Contents (Elt F)) (Φ₁ (Proc.devRef .tc Cert.KernelIdeal.main_call7_v0)) (Φ₂ (Proc.devRef .tc Cert.ReferenceIdeal.main_call7_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 31) rfl) :) e67
  have e70 : @Eq ((⟨Cert.KernelIdeal.S131072, .i32⟩ : BufTy).Contents (Elt F)) (Φ₁ (Proc.devRef .tc Cert.KernelIdeal.main_call7_v1)) (Φ₂ (Proc.devRef .tc Cert.ReferenceIdeal.main_call7_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 32) rfl) :) e69
  have e71 : @Eq ((⟨Cert.KernelIdeal.S131072, .i32⟩ : BufTy).Contents (Elt F)) (Φ₁ (Proc.devRef .tc Cert.KernelIdeal.main_call7_v2)) (Φ₂ (Proc.devRef .tc Cert.ReferenceIdeal.main_call7_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 33) rfl) :) e70 e66
  have e72 : @Eq ((⟨Cert.KernelIdeal.S_, .i32⟩ : BufTy).Contents (Elt F)) (Φ₁ (Proc.devRef .tc Cert.KernelIdeal.main_call7_v3)) (Φ₂ (Proc.devRef .tc Cert.ReferenceIdeal.main_call7_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 34) rfl) :) e68
  have e73 : @Eq ((⟨Cert.KernelIdeal.S131072, .i32⟩ : BufTy).Contents (Elt F)) (Φ₁ (Proc.devRef .tc Cert.KernelIdeal.main_call7_v4)) (Φ₂ (Proc.devRef .tc Cert.ReferenceIdeal.main_call7_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 35) rfl) :) e72
  have e74 : @Eq ((⟨Cert.KernelIdeal.S131072, .i32⟩ : BufTy).Contents (Elt F)) (Φ₁ (Proc.devRef .tc Cert.KernelIdeal.main_v174)) (Φ₂ (Proc.devRef .tc Cert.ReferenceIdeal.main_v174)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 36) rfl) :) e73 e71
  have e75 : @Eq ((⟨Cert.KernelIdeal.S_, .i32⟩ : BufTy).Contents (Elt F)) (Φ₁ (Proc.devRef .tc Cert.KernelIdeal.main_c_80)) (Φ₂ (Proc.devRef .tc Cert.ReferenceIdeal.main_c_80)) := step0 (β := ((⟨Cert.KernelIdeal.S_, .i32⟩ : BufTy).Contents (Elt F))) (eq0 (at_ fa8 (i := 0) rfl) :) (eq0 (at_ fb1 (i := 37) rfl) :)
  have e76 : @Eq ((⟨Cert.KernelIdeal.S131072, .i32⟩ : BufTy).Contents (Elt F)) (Φ₁ (Proc.devRef .tc Cert.KernelIdeal.main_v175)) (Φ₂ (Proc.devRef .tc Cert.ReferenceIdeal.main_v175)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 38) rfl) :) e75
  have e77 : @Eq ((⟨Cert.KernelIdeal.S131072, .i1⟩ : BufTy).Contents (Elt F)) (Φ₁ (Proc.devRef .tc Cert.KernelIdeal.main_v176)) (Φ₂ (Proc.devRef .tc Cert.ReferenceIdeal.main_v176)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 39) rfl) :) e63 e76
  have e78 : @Eq ((⟨Cert.KernelIdeal.S_, .i32⟩ : BufTy).Contents (Elt F)) (Φ₁ (Proc.devRef .tc Cert.KernelIdeal.main_c_81)) (Φ₂ (Proc.devRef .tc Cert.ReferenceIdeal.main_c_81)) := step0 (β := ((⟨Cert.KernelIdeal.S_, .i32⟩ : BufTy).Contents (Elt F))) (eq0 (at_ fa8 (i := 3) rfl) :) (eq0 (at_ fb1 (i := 40) rfl) :)
  have e79 : @Eq ((⟨Cert.KernelIdeal.S131072, .i32⟩ : BufTy).Contents (Elt F)) (Φ₁ (Proc.devRef .tc Cert.KernelIdeal.main_v177)) (Φ₂ (Proc.devRef .tc Cert.ReferenceIdeal.main_v177)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 41) rfl) :) e78
  have e80 : @Eq ((⟨Cert.KernelIdeal.S131072, .i32⟩ : BufTy).Contents (Elt F)) (Φ₁ (Proc.devRef .tc Cert.KernelIdeal.main_v178)) (Φ₂ (Proc.devRef .tc Cert.ReferenceIdeal.main_v178)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 42) rfl) :) e63 e79
  have e81 : @Eq ((⟨Cert.KernelIdeal.S131072, .i32⟩ : BufTy).Contents (Elt F)) (Φ₁ (Proc.devRef .tc Cert.KernelIdeal.main_v179)) (Φ₂ (Proc.devRef .tc Cert.ReferenceIdeal.main_v179)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 43) rfl) :) e77 e80 e63
  have e82 : @Eq ((⟨Cert.KernelIdeal.S_, .i32⟩ : BufTy).Contents (Elt F)) (Φ₁ (Proc.devRef .tc Cert.KernelIdeal.main_c_82)) (Φ₂ (Proc.devRef .tc Cert.ReferenceIdeal.main_c_82)) := step0 (β := ((⟨Cert.KernelIdeal.S_, .i32⟩ : BufTy).Contents (Elt F))) (eq0 (at_ fa8 (i := 7) rfl) :) (eq0 (at_ fb1 (i := 44) rfl) :)
  have e83 : @Eq ((⟨Cert.KernelIdeal.S131072, .i32⟩ : BufTy).Contents (Elt F)) (Φ₁ (Proc.devRef .tc Cert.KernelIdeal.main_v180)) (Φ₂ (Proc.devRef .tc Cert.ReferenceIdeal.main_v180)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 45) rfl) :) e82
  have e84 : @Eq ((⟨Cert.KernelIdeal.S131072, .i1⟩ : BufTy).Contents (Elt F)) (Φ₁ (Proc.devRef .tc Cert.KernelIdeal.main_v181)) (Φ₂ (Proc.devRef .tc Cert.ReferenceIdeal.main_v181)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 46) rfl) :) e43 e83
  have e85 : @Eq ((⟨Cert.KernelIdeal.S_, .i32⟩ : BufTy).Contents (Elt F)) (Φ₁ (Proc.devRef .tc Cert.KernelIdeal.main_c_83)) (Φ₂ (Proc.devRef .tc Cert.ReferenceIdeal.main_c_83)) := step0 (β := ((⟨Cert.KernelIdeal.S_, .i32⟩ : BufTy).Contents (Elt F))) (eq0 (at_ fa8 (i := 10) rfl) :) (eq0 (at_ fb1 (i := 47) rfl) :)
  have e86 : @Eq ((⟨Cert.KernelIdeal.S131072, .i32⟩ : BufTy).Contents (Elt F)) (Φ₁ (Proc.devRef .tc Cert.KernelIdeal.main_v182)) (Φ₂ (Proc.devRef .tc Cert.ReferenceIdeal.main_v182)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 48) rfl) :) e85
  have e87 : @Eq ((⟨Cert.KernelIdeal.S131072, .i32⟩ : BufTy).Contents (Elt F)) (Φ₁ (Proc.devRef .tc Cert.KernelIdeal.main_v183)) (Φ₂ (Proc.devRef .tc Cert.ReferenceIdeal.main_v183)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 49) rfl) :) e43 e86
  have e88 : @Eq ((⟨Cert.KernelIdeal.S131072, .i32⟩ : BufTy).Contents (Elt F)) (Φ₁ (Proc.devRef .tc Cert.KernelIdeal.main_v184)) (Φ₂ (Proc.devRef .tc Cert.ReferenceIdeal.main_v184)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 50) rfl) :) e84 e87 e43
  have e89 : @Eq ((⟨Cert.KernelIdeal.S131072x1, .i32⟩ : BufTy).Contents (Elt F)) (Φ₁ (Proc.devRef .tc Cert.KernelIdeal.main_v185)) (Φ₂ (Proc.devRef .tc Cert.ReferenceIdeal.main_v185)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 51) rfl) :) e81
  have e90 : @Eq ((⟨Cert.KernelIdeal.S131072x1, .i32⟩ : BufTy).Contents (Elt F)) (Φ₁ (Proc.devRef .tc Cert.KernelIdeal.main_v186)) (Φ₂ (Proc.devRef .tc Cert.ReferenceIdeal.main_v186)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 52) rfl) :) e88
  have e91 : @Eq ((⟨Cert.KernelIdeal.S131072x2, .i32⟩ : BufTy).Contents (Elt F)) (Φ₁ (Proc.devRef .tc Cert.KernelIdeal.main_v187)) (Φ₂ (Proc.devRef .tc Cert.ReferenceIdeal.main_v187)) := by rw [eq2 (at_ fa8 (i := 16) rfl), eq2 (at_ fb1 (i := 53) rfl), e89, e90] <;> rfl
  have e92 : @Eq ((⟨Cert.KernelIdeal.S32x131072, .f32⟩ : BufTy).Contents (Elt F)) (Φ₁ (Proc.devRef .tc Cert.KernelIdeal.main_v188)) (Φ₂ (Proc.devRef .tc Cert.ReferenceIdeal.main_v188)) := by rw [eq2 (at_ fa8 (i := 17) rfl), eq2 (at_ fb1 (i := 54) rfl), x2, e91] <;> rfl
  have e93 : @Eq ((⟨Cert.KernelIdeal.S_, .i32⟩ : BufTy).Contents (Elt F)) (Φ₁ (Proc.devRef .tc Cert.KernelIdeal.main_c_84)) (Φ₂ (Proc.devRef .tc Cert.ReferenceIdeal.main_c_84)) := step0 (β := ((⟨Cert.KernelIdeal.S_, .i32⟩ : BufTy).Contents (Elt F))) (eq0 (at_ fa8 (i := 18) rfl) :) (eq0 (at_ fb1 (i := 55) rfl) :)
  have e94 : @Eq ((⟨Cert.KernelIdeal.S131072, .i32⟩ : BufTy).Contents (Elt F)) (Φ₁ (Proc.devRef .tc Cert.KernelIdeal.main_v189)) (Φ₂ (Proc.devRef .tc Cert.ReferenceIdeal.main_v189)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 56) rfl) :) e93
  have e95 : @Eq ((⟨Cert.KernelIdeal.S131072, .i1⟩ : BufTy).Contents (Elt F)) (Φ₁ (Proc.devRef .tc Cert.KernelIdeal.main_v190)) (Φ₂ (Proc.devRef .tc Cert.ReferenceIdeal.main_v190)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 57) rfl) :) e63 e94
  have e96 : @Eq ((⟨Cert.KernelIdeal.S_, .i32⟩ : BufTy).Contents (Elt F)) (Φ₁ (Proc.devRef .tc Cert.KernelIdeal.main_c_85)) (Φ₂ (Proc.devRef .tc Cert.ReferenceIdeal.main_c_85)) := step0 (β := ((⟨Cert.KernelIdeal.S_, .i32⟩ : BufTy).Contents (Elt F))) (eq0 (at_ fa8 (i := 21) rfl) :) (eq0 (at_ fb1 (i := 58) rfl) :)
  have e97 : @Eq ((⟨Cert.KernelIdeal.S131072, .i32⟩ : BufTy).Contents (Elt F)) (Φ₁ (Proc.devRef .tc Cert.KernelIdeal.main_v191)) (Φ₂ (Proc.devRef .tc Cert.ReferenceIdeal.main_v191)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 59) rfl) :) e96
  have e98 : @Eq ((⟨Cert.KernelIdeal.S131072, .i32⟩ : BufTy).Contents (Elt F)) (Φ₁ (Proc.devRef .tc Cert.KernelIdeal.main_v192)) (Φ₂ (Proc.devRef .tc Cert.ReferenceIdeal.main_v192)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 60) rfl) :) e63 e97
  have e99 : @Eq ((⟨Cert.KernelIdeal.S131072, .i32⟩ : BufTy).Contents (Elt F)) (Φ₁ (Proc.devRef .tc Cert.KernelIdeal.main_v193)) (Φ₂ (Proc.devRef .tc Cert.ReferenceIdeal.main_v193)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 61) rfl) :) e95 e98 e63
  have e100 : @Eq ((⟨Cert.KernelIdeal.S_, .i32⟩ : BufTy).Contents (Elt F)) (Φ₁ (Proc.devRef .tc Cert.KernelIdeal.main_c_86)) (Φ₂ (Proc.devRef .tc Cert.ReferenceIdeal.main_c_86)) := step0 (β := ((⟨Cert.KernelIdeal.S_, .i32⟩ : BufTy).Contents (Elt F))) (eq0 (at_ fa8 (i := 25) rfl) :) (eq0 (at_ fb1 (i := 62) rfl) :)
  have e101 : @Eq ((⟨Cert.KernelIdeal.S131072, .i32⟩ : BufTy).Contents (Elt F)) (Φ₁ (Proc.devRef .tc Cert.KernelIdeal.main_v194)) (Φ₂ (Proc.devRef .tc Cert.ReferenceIdeal.main_v194)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 63) rfl) :) e100
  have e102 : @Eq ((⟨Cert.KernelIdeal.S131072, .i1⟩ : BufTy).Contents (Elt F)) (Φ₁ (Proc.devRef .tc Cert.KernelIdeal.main_v195)) (Φ₂ (Proc.devRef .tc Cert.ReferenceIdeal.main_v195)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 64) rfl) :) e54 e101
  have e103 : @Eq ((⟨Cert.KernelIdeal.S_, .i32⟩ : BufTy).Contents (Elt F)) (Φ₁ (Proc.devRef .tc Cert.KernelIdeal.main_c_87)) (Φ₂ (Proc.devRef .tc Cert.ReferenceIdeal.main_c_87)) := step0 (β := ((⟨Cert.KernelIdeal.S_, .i32⟩ : BufTy).Contents (Elt F))) (eq0 (at_ fa8 (i := 28) rfl) :) (eq0 (at_ fb1 (i := 65) rfl) :)
  have e104 : @Eq ((⟨Cert.KernelIdeal.S131072, .i32⟩ : BufTy).Contents (Elt F)) (Φ₁ (Proc.devRef .tc Cert.KernelIdeal.main_v196)) (Φ₂ (Proc.devRef .tc Cert.ReferenceIdeal.main_v196)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 66) rfl) :) e103
  have e105 : @Eq ((⟨Cert.KernelIdeal.S131072, .i32⟩ : BufTy).Contents (Elt F)) (Φ₁ (Proc.devRef .tc Cert.KernelIdeal.main_v197)) (Φ₂ (Proc.devRef .tc Cert.ReferenceIdeal.main_v197)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 67) rfl) :) e54 e104
  have e106 : @Eq ((⟨Cert.KernelIdeal.S131072, .i32⟩ : BufTy).Contents (Elt F)) (Φ₁ (Proc.devRef .tc Cert.KernelIdeal.main_v198)) (Φ₂ (Proc.devRef .tc Cert.ReferenceIdeal.main_v198)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 68) rfl) :) e102 e105 e54
  have e107 : @Eq ((⟨Cert.KernelIdeal.S131072x1, .i32⟩ : BufTy).Contents (Elt F)) (Φ₁ (Proc.devRef .tc Cert.KernelIdeal.main_v199)) (Φ₂ (Proc.devRef .tc Cert.ReferenceIdeal.main_v199)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 69) rfl) :) e99
  have e108 : @Eq ((⟨Cert.KernelIdeal.S131072x1, .i32⟩ : BufTy).Contents (Elt F)) (Φ₁ (Proc.devRef .tc Cert.KernelIdeal.main_v200)) (Φ₂ (Proc.devRef .tc Cert.ReferenceIdeal.main_v200)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 70) rfl) :) e106
  have e109 : @Eq ((⟨Cert.KernelIdeal.S131072x2, .i32⟩ : BufTy).Contents (Elt F)) (Φ₁ (Proc.devRef .tc Cert.KernelIdeal.main_v201)) (Φ₂ (Proc.devRef .tc Cert.ReferenceIdeal.main_v201)) := by rw [eq2 (at_ fa8 (i := 34) rfl), eq2 (at_ fb1 (i := 71) rfl), e107, e108] <;> rfl
  have e110 : @Eq ((⟨Cert.KernelIdeal.S32x131072, .f32⟩ : BufTy).Contents (Elt F)) (Φ₁ (Proc.devRef .tc Cert.KernelIdeal.main_v202)) (Φ₂ (Proc.devRef .tc Cert.ReferenceIdeal.main_v202)) := by rw [eq2 (at_ fa8 (i := 35) rfl), eq2 (at_ fb1 (i := 72) rfl), x2, e109] <;> rfl
  have e111 : @Eq ((⟨Cert.KernelIdeal.S_, .i32⟩ : BufTy).Contents (Elt F)) (Φ₁ (Proc.devRef .tc Cert.KernelIdeal.main_c_88)) (Φ₂ (Proc.devRef .tc Cert.ReferenceIdeal.main_c_88)) := step0 (β := ((⟨Cert.KernelIdeal.S_, .i32⟩ : BufTy).Contents (Elt F))) (eq0 (at_ fa8 (i := 36) rfl) :) (eq0 (at_ fb1 (i := 73) rfl) :)
  have e112 : @Eq ((⟨Cert.KernelIdeal.S131072, .i32⟩ : BufTy).Contents (Elt F)) (Φ₁ (Proc.devRef .tc Cert.KernelIdeal.main_v203)) (Φ₂ (Proc.devRef .tc Cert.ReferenceIdeal.main_v203)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 74) rfl) :) e111
  have e113 : @Eq ((⟨Cert.KernelIdeal.S131072, .i1⟩ : BufTy).Contents (Elt F)) (Φ₁ (Proc.devRef .tc Cert.KernelIdeal.main_v204)) (Φ₂ (Proc.devRef .tc Cert.ReferenceIdeal.main_v204)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 75) rfl) :) e74 e112
  have e114 : @Eq ((⟨Cert.KernelIdeal.S_, .i32⟩ : BufTy).Contents (Elt F)) (Φ₁ (Proc.devRef .tc Cert.KernelIdeal.main_c_89)) (Φ₂ (Proc.devRef .tc Cert.ReferenceIdeal.main_c_89)) := step0 (β := ((⟨Cert.KernelIdeal.S_, .i32⟩ : BufTy).Contents (Elt F))) (eq0 (at_ fa8 (i := 39) rfl) :) (eq0 (at_ fb1 (i := 76) rfl) :)
  have e115 : @Eq ((⟨Cert.KernelIdeal.S131072, .i32⟩ : BufTy).Contents (Elt F)) (Φ₁ (Proc.devRef .tc Cert.KernelIdeal.main_v205)) (Φ₂ (Proc.devRef .tc Cert.ReferenceIdeal.main_v205)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 77) rfl) :) e114
  have e116 : @Eq ((⟨Cert.KernelIdeal.S131072, .i32⟩ : BufTy).Contents (Elt F)) (Φ₁ (Proc.devRef .tc Cert.KernelIdeal.main_v206)) (Φ₂ (Proc.devRef .tc Cert.ReferenceIdeal.main_v206)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 78) rfl) :) e74 e115
  have e117 : @Eq ((⟨Cert.KernelIdeal.S131072, .i32⟩ : BufTy).Contents (Elt F)) (Φ₁ (Proc.devRef .tc Cert.KernelIdeal.main_v207)) (Φ₂ (Proc.devRef .tc Cert.ReferenceIdeal.main_v207)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 79) rfl) :) e113 e116 e74
  have e118 : @Eq ((⟨Cert.KernelIdeal.S_, .i32⟩ : BufTy).Contents (Elt F)) (Φ₁ (Proc.devRef .tc Cert.KernelIdeal.main_c_90)) (Φ₂ (Proc.devRef .tc Cert.ReferenceIdeal.main_c_90)) := step0 (β := ((⟨Cert.KernelIdeal.S_, .i32⟩ : BufTy).Contents (Elt F))) (eq0 (at_ fa8 (i := 43) rfl) :) (eq0 (at_ fb2 (i := 0) rfl) :)
  have e119 : @Eq ((⟨Cert.KernelIdeal.S131072, .i32⟩ : BufTy).Contents (Elt F)) (Φ₁ (Proc.devRef .tc Cert.KernelIdeal.main_v208)) (Φ₂ (Proc.devRef .tc Cert.ReferenceIdeal.main_v208)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 1) rfl) :) e118
  have e120 : @Eq ((⟨Cert.KernelIdeal.S131072, .i1⟩ : BufTy).Contents (Elt F)) (Φ₁ (Proc.devRef .tc Cert.KernelIdeal.main_v209)) (Φ₂ (Proc.devRef .tc Cert.ReferenceIdeal.main_v209)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 2) rfl) :) e43 e119
  have e121 : @Eq ((⟨Cert.KernelIdeal.S_, .i32⟩ : BufTy).Contents (Elt F)) (Φ₁ (Proc.devRef .tc Cert.KernelIdeal.main_c_91)) (Φ₂ (Proc.devRef .tc Cert.ReferenceIdeal.main_c_91)) := step0 (β := ((⟨Cert.KernelIdeal.S_, .i32⟩ : BufTy).Contents (Elt F))) (eq0 (at_ fa8 (i := 46) rfl) :) (eq0 (at_ fb2 (i := 3) rfl) :)
  have e122 : @Eq ((⟨Cert.KernelIdeal.S131072, .i32⟩ : BufTy).Contents (Elt F)) (Φ₁ (Proc.devRef .tc Cert.KernelIdeal.main_v210)) (Φ₂ (Proc.devRef .tc Cert.ReferenceIdeal.main_v210)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 4) rfl) :) e121
  have e123 : @Eq ((⟨Cert.KernelIdeal.S131072, .i32⟩ : BufTy).Contents (Elt F)) (Φ₁ (Proc.devRef .tc Cert.KernelIdeal.main_v211)) (Φ₂ (Proc.devRef .tc Cert.ReferenceIdeal.main_v211)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 5) rfl) :) e43 e122
  have e124 : @Eq ((⟨Cert.KernelIdeal.S131072, .i32⟩ : BufTy).Contents (Elt F)) (Φ₁ (Proc.devRef .tc Cert.KernelIdeal.main_v212)) (Φ₂ (Proc.devRef .tc Cert.ReferenceIdeal.main_v212)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 6) rfl) :) e120 e123 e43
  have e125 : @Eq ((⟨Cert.KernelIdeal.S131072x1, .i32⟩ : BufTy).Contents (Elt F)) (Φ₁ (Proc.devRef .tc Cert.KernelIdeal.main_v213)) (Φ₂ (Proc.devRef .tc Cert.ReferenceIdeal.main_v213)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 7) rfl) :) e117
  have e126 : @Eq ((⟨Cert.KernelIdeal.S131072x1, .i32⟩ : BufTy).Contents (Elt F)) (Φ₁ (Proc.devRef .tc Cert.KernelIdeal.main_v214)) (Φ₂ (Proc.devRef .tc Cert.ReferenceIdeal.main_v214)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 8) rfl) :) e124
  have e127 : @Eq ((⟨Cert.KernelIdeal.S131072x2, .i32⟩ : BufTy).Contents (Elt F)) (Φ₁ (Proc.devRef .tc Cert.KernelIdeal.main_v215)) (Φ₂ (Proc.devRef .tc Cert.ReferenceIdeal.main_v215)) := by rw [eq2 (at_ fa8 (i := 52) rfl), eq2 (at_ fb2 (i := 9) rfl), e125, e126] <;> rfl
  have e128 : @Eq ((⟨Cert.KernelIdeal.S32x131072, .f32⟩ : BufTy).Contents (Elt F)) (Φ₁ (Proc.devRef .tc Cert.KernelIdeal.main_v216)) (Φ₂ (Proc.devRef .tc Cert.ReferenceIdeal.main_v216)) := by rw [eq2 (at_ fa8 (i := 53) rfl), eq2 (at_ fb2 (i := 10) rfl), x2, e127] <;> rfl
  have e129 : @Eq ((⟨Cert.KernelIdeal.S_, .i32⟩ : BufTy).Contents (Elt F)) (Φ₁ (Proc.devRef .tc Cert.KernelIdeal.main_c_92)) (Φ₂ (Proc.devRef .tc Cert.ReferenceIdeal.main_c_92)) := step0 (β := ((⟨Cert.KernelIdeal.S_, .i32⟩ : BufTy).Contents (Elt F))) (eq0 (at_ fa8 (i := 54) rfl) :) (eq0 (at_ fb2 (i := 11) rfl) :)
  have e130 : @Eq ((⟨Cert.KernelIdeal.S131072, .i32⟩ : BufTy).Contents (Elt F)) (Φ₁ (Proc.devRef .tc Cert.KernelIdeal.main_v217)) (Φ₂ (Proc.devRef .tc Cert.ReferenceIdeal.main_v217)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 12) rfl) :) e129
  have e131 : @Eq ((⟨Cert.KernelIdeal.S131072, .i1⟩ : BufTy).Contents (Elt F)) (Φ₁ (Proc.devRef .tc Cert.KernelIdeal.main_v218)) (Φ₂ (Proc.devRef .tc Cert.ReferenceIdeal.main_v218)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 13) rfl) :) e74 e130
  have e132 : @Eq ((⟨Cert.KernelIdeal.S_, .i32⟩ : BufTy).Contents (Elt F)) (Φ₁ (Proc.devRef .tc Cert.KernelIdeal.main_c_93)) (Φ₂ (Proc.devRef .tc Cert.ReferenceIdeal.main_c_93)) := step0 (β := ((⟨Cert.KernelIdeal.S_, .i32⟩ : BufTy).Contents (Elt F))) (eq0 (at_ fa8 (i := 57) rfl) :) (eq0 (at_ fb2 (i := 14) rfl) :)
  have e133 : @Eq ((⟨Cert.KernelIdeal.S131072, .i32⟩ : BufTy).Contents (Elt F)) (Φ₁ (Proc.devRef .tc Cert.KernelIdeal.main_v219)) (Φ₂ (Proc.devRef .tc Cert.ReferenceIdeal.main_v219)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 15) rfl) :) e132
  have e134 : @Eq ((⟨Cert.KernelIdeal.S131072, .i32⟩ : BufTy).Contents (Elt F)) (Φ₁ (Proc.devRef .tc Cert.KernelIdeal.main_v220)) (Φ₂ (Proc.devRef .tc Cert.ReferenceIdeal.main_v220)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 16) rfl) :) e74 e133
  have e135 : @Eq ((⟨Cert.KernelIdeal.S131072, .i32⟩ : BufTy).Contents (Elt F)) (Φ₁ (Proc.devRef .tc Cert.KernelIdeal.main_v221)) (Φ₂ (Proc.devRef .tc Cert.ReferenceIdeal.main_v221)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 17) rfl) :) e131 e134 e74
  have e136 : @Eq ((⟨Cert.KernelIdeal.S_, .i32⟩ : BufTy).Contents (Elt F)) (Φ₁ (Proc.devRef .tc Cert.KernelIdeal.main_c_94)) (Φ₂ (Proc.devRef .tc Cert.ReferenceIdeal.main_c_94)) := step0 (β := ((⟨Cert.KernelIdeal.S_, .i32⟩ : BufTy).Contents (Elt F))) (eq0 (at_ fa8 (i := 61) rfl) :) (eq0 (at_ fb2 (i := 18) rfl) :)
  have e137 : @Eq ((⟨Cert.KernelIdeal.S131072, .i32⟩ : BufTy).Contents (Elt F)) (Φ₁ (Proc.devRef .tc Cert.KernelIdeal.main_v222)) (Φ₂ (Proc.devRef .tc Cert.ReferenceIdeal.main_v222)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 19) rfl) :) e136
  have e138 : @Eq ((⟨Cert.KernelIdeal.S131072, .i1⟩ : BufTy).Contents (Elt F)) (Φ₁ (Proc.devRef .tc Cert.KernelIdeal.main_v223)) (Φ₂ (Proc.devRef .tc Cert.ReferenceIdeal.main_v223)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 20) rfl) :) e54 e137
  have e139 : @Eq ((⟨Cert.KernelIdeal.S_, .i32⟩ : BufTy).Contents (Elt F)) (Φ₁ (Proc.devRef .tc Cert.KernelIdeal.main_c_95)) (Φ₂ (Proc.devRef .tc Cert.ReferenceIdeal.main_c_95)) := step0 (β := ((⟨Cert.KernelIdeal.S_, .i32⟩ : BufTy).Contents (Elt F))) (eq0 (at_ fa8 (i := 64) rfl) :) (eq0 (at_ fb2 (i := 21) rfl) :)
  have e140 : @Eq ((⟨Cert.KernelIdeal.S131072, .i32⟩ : BufTy).Contents (Elt F)) (Φ₁ (Proc.devRef .tc Cert.KernelIdeal.main_v224)) (Φ₂ (Proc.devRef .tc Cert.ReferenceIdeal.main_v224)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 22) rfl) :) e139
  have e141 : @Eq ((⟨Cert.KernelIdeal.S131072, .i32⟩ : BufTy).Contents (Elt F)) (Φ₁ (Proc.devRef .tc Cert.KernelIdeal.main_v225)) (Φ₂ (Proc.devRef .tc Cert.ReferenceIdeal.main_v225)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 23) rfl) :) e54 e140
  have e142 : @Eq ((⟨Cert.KernelIdeal.S131072, .i32⟩ : BufTy).Contents (Elt F)) (Φ₁ (Proc.devRef .tc Cert.KernelIdeal.main_v226)) (Φ₂ (Proc.devRef .tc Cert.ReferenceIdeal.main_v226)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 24) rfl) :) e138 e141 e54
  have e143 : @Eq ((⟨Cert.KernelIdeal.S131072x1, .i32⟩ : BufTy).Contents (Elt F)) (Φ₁ (Proc.devRef .tc Cert.KernelIdeal.main_v227)) (Φ₂ (Proc.devRef .tc Cert.ReferenceIdeal.main_v227)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 25) rfl) :) e135
  have e144 : @Eq ((⟨Cert.KernelIdeal.S131072x1, .i32⟩ : BufTy).Contents (Elt F)) (Φ₁ (Proc.devRef .tc Cert.KernelIdeal.main_v228)) (Φ₂ (Proc.devRef .tc Cert.ReferenceIdeal.main_v228)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 26) rfl) :) e142
  have e145 : @Eq ((⟨Cert.KernelIdeal.S131072x2, .i32⟩ : BufTy).Contents (Elt F)) (Φ₁ (Proc.devRef .tc Cert.KernelIdeal.main_v229)) (Φ₂ (Proc.devRef .tc Cert.ReferenceIdeal.main_v229)) := by rw [eq2 (at_ fa8 (i := 70) rfl), eq2 (at_ fb2 (i := 27) rfl), e143, e144] <;> rfl
  have e146 : @Eq ((⟨Cert.KernelIdeal.S32x131072, .f32⟩ : BufTy).Contents (Elt F)) (Φ₁ (Proc.devRef .tc Cert.KernelIdeal.main_v230)) (Φ₂ (Proc.devRef .tc Cert.ReferenceIdeal.main_v230)) := by rw [eq2 (at_ fa8 (i := 71) rfl), eq2 (at_ fb2 (i := 28) rfl), x2, e145] <;> rfl
  have e147 : @Eq ((⟨Cert.KernelIdeal.S_, .f32⟩ : BufTy).Contents (Elt F)) (Φ₁ (Proc.devRef .tc Cert.KernelIdeal.main_cst_96)) (Φ₂ (Proc.devRef .tc Cert.ReferenceIdeal.main_cst_96)) := step0 (β := ((⟨Cert.KernelIdeal.S_, .f32⟩ : BufTy).Contents (Elt F))) (eq0 (at_ fa8 (i := 72) rfl) :) (eq0 (at_ fb2 (i := 29) rfl) :)
  have e148 : @Eq ((⟨Cert.KernelIdeal.S131072, .f32⟩ : BufTy).Contents (Elt F)) (Φ₁ (Proc.devRef .tc Cert.KernelIdeal.main_v231)) (Φ₂ (Proc.devRef .tc Cert.ReferenceIdeal.main_v231)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 30) rfl) :) e147
  have e149 : @Eq ((⟨Cert.KernelIdeal.S131072, .f32⟩ : BufTy).Contents (Elt F)) (Φ₁ (Proc.devRef .tc Cert.KernelIdeal.main_v232)) (Φ₂ (Proc.devRef .tc Cert.ReferenceIdeal.main_v232)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 31) rfl) :) e148 e33
  have e150 : @Eq ((⟨Cert.KernelIdeal.S1x131072, .f32⟩ : BufTy).Contents (Elt F)) (Φ₁ (Proc.devRef .tc Cert.KernelIdeal.main_v233)) (Φ₂ (Proc.devRef .tc Cert.ReferenceIdeal.main_v233)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 32) rfl) :) e149
  have e151 : @Eq ((⟨Cert.KernelIdeal.S32x131072, .f32⟩ : BufTy).Contents (Elt F)) (Φ₁ (Proc.devRef .tc Cert.KernelIdeal.main_v234)) (Φ₂ (Proc.devRef .tc Cert.ReferenceIdeal.main_v234)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 33) rfl) :) e150
  have e152 : @Eq ((⟨Cert.KernelIdeal.S32x131072, .f32⟩ : BufTy).Contents (Elt F)) (Φ₁ (Proc.devRef .tc Cert.KernelIdeal.main_v235)) (Φ₂ (Proc.devRef .tc Cert.ReferenceIdeal.main_v235)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 34) rfl) :) e92 e151
  have e153 : @Eq ((⟨Cert.KernelIdeal.S_, .f32⟩ : BufTy).Contents (Elt F)) (Φ₁ (Proc.devRef .tc Cert.KernelIdeal.main_cst_97)) (Φ₂ (Proc.devRef .tc Cert.ReferenceIdeal.main_cst_97)) := step0 (β := ((⟨Cert.KernelIdeal.S_, .f32⟩ : BufTy).Contents (Elt F))) (eq0 (at_ fa8 (i := 78) rfl) :) (eq0 (at_ fb2 (i := 35) rfl) :)
  have e154 : @Eq ((⟨Cert.KernelIdeal.S131072, .f32⟩ : BufTy).Contents (Elt F)) (Φ₁ (Proc.devRef .tc Cert.KernelIdeal.main_v236)) (Φ₂ (Proc.devRef .tc Cert.ReferenceIdeal.main_v236)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 36) rfl) :) e153
  have e155 : @Eq ((⟨Cert.KernelIdeal.S131072, .f32⟩ : BufTy).Contents (Elt F)) (Φ₁ (Proc.devRef .tc Cert.KernelIdeal.main_v237)) (Φ₂ (Proc.devRef .tc Cert.ReferenceIdeal.main_v237)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 37) rfl) :) e154 e34
  have e156 : @Eq ((⟨Cert.KernelIdeal.S1x131072, .f32⟩ : BufTy).Contents (Elt F)) (Φ₁ (Proc.devRef .tc Cert.KernelIdeal.main_v238)) (Φ₂ (Proc.devRef .tc Cert.ReferenceIdeal.main_v238)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 38) rfl) :) e155
  have e157 : @Eq ((⟨Cert.KernelIdeal.S32x131072, .f32⟩ : BufTy).Contents (Elt F)) (Φ₁ (Proc.devRef .tc Cert.KernelIdeal.main_v239)) (Φ₂ (Proc.devRef .tc Cert.ReferenceIdeal.main_v239)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 39) rfl) :) e156
  have e158 : @Eq ((⟨Cert.KernelIdeal.S32x131072, .f32⟩ : BufTy).Contents (Elt F)) (Φ₁ (Proc.devRef .tc Cert.KernelIdeal.main_v240)) (Φ₂ (Proc.devRef .tc Cert.ReferenceIdeal.main_v240)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 40) rfl) :) e152 e157
  have e159 : @Eq ((⟨Cert.KernelIdeal.S1x131072, .f32⟩ : BufTy).Contents (Elt F)) (Φ₁ (Proc.devRef .tc Cert.KernelIdeal.main_v241)) (Φ₂ (Proc.devRef .tc Cert.ReferenceIdeal.main_v241)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 41) rfl) :) e33
  have e160 : @Eq ((⟨Cert.KernelIdeal.S32x131072, .f32⟩ : BufTy).Contents (Elt F)) (Φ₁ (Proc.devRef .tc Cert.KernelIdeal.main_v242)) (Φ₂ (Proc.devRef .tc Cert.ReferenceIdeal.main_v242)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 42) rfl) :) e159
  have e161 : @Eq ((⟨Cert.KernelIdeal.S32x131072, .f32⟩ : BufTy).Contents (Elt F)) (Φ₁ (Proc.devRef .tc Cert.KernelIdeal.main_v243)) (Φ₂ (Proc.devRef .tc Cert.ReferenceIdeal.main_v243)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 43) rfl) :) e110 e160
  have e162 : @Eq ((⟨Cert.KernelIdeal.S_, .f32⟩ : BufTy).Contents (Elt F)) (Φ₁ (Proc.devRef .tc Cert.KernelIdeal.main_cst_98)) (Φ₂ (Proc.devRef .tc Cert.ReferenceIdeal.main_cst_98)) := step0 (β := ((⟨Cert.KernelIdeal.S_, .f32⟩ : BufTy).Contents (Elt F))) (eq0 (at_ fa8 (i := 87) rfl) :) (eq0 (at_ fb2 (i := 44) rfl) :)
  have e163 : @Eq ((⟨Cert.KernelIdeal.S131072, .f32⟩ : BufTy).Contents (Elt F)) (Φ₁ (Proc.devRef .tc Cert.KernelIdeal.main_v244)) (Φ₂ (Proc.devRef .tc Cert.ReferenceIdeal.main_v244)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 45) rfl) :) e162
  have e164 : @Eq ((⟨Cert.KernelIdeal.S131072, .f32⟩ : BufTy).Contents (Elt F)) (Φ₁ (Proc.devRef .tc Cert.KernelIdeal.main_v245)) (Φ₂ (Proc.devRef .tc Cert.ReferenceIdeal.main_v245)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 46) rfl) :) e163 e34
  have e165 : @Eq ((⟨Cert.KernelIdeal.S1x131072, .f32⟩ : BufTy).Contents (Elt F)) (Φ₁ (Proc.devRef .tc Cert.KernelIdeal.main_v246)) (Φ₂ (Proc.devRef .tc Cert.ReferenceIdeal.main_v246)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 47) rfl) :) e164
  have e166 : @Eq ((⟨Cert.KernelIdeal.S32x131072, .f32⟩ : BufTy).Contents (Elt F)) (Φ₁ (Proc.devRef .tc Cert.KernelIdeal.main_v247)) (Φ₂ (Proc.devRef .tc Cert.ReferenceIdeal.main_v247)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 48) rfl) :) e165
  have e167 : @Eq ((⟨Cert.KernelIdeal.S32x131072, .f32⟩ : BufTy).Contents (Elt F)) (Φ₁ (Proc.devRef .tc Cert.KernelIdeal.main_v248)) (Φ₂ (Proc.devRef .tc Cert.ReferenceIdeal.main_v248)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 49) rfl) :) e161 e166
  have e168 : @Eq ((⟨Cert.KernelIdeal.S32x131072, .f32⟩ : BufTy).Contents (Elt F)) (Φ₁ (Proc.devRef .tc Cert.KernelIdeal.main_v249)) (Φ₂ (Proc.devRef .tc Cert.ReferenceIdeal.main_v249)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 50) rfl) :) e158 e167
  have e169 : @Eq ((⟨Cert.KernelIdeal.S_, .f32⟩ : BufTy).Contents (Elt F)) (Φ₁ (Proc.devRef .tc Cert.KernelIdeal.main_cst_99)) (Φ₂ (Proc.devRef .tc Cert.ReferenceIdeal.main_cst_99)) := step0 (β := ((⟨Cert.KernelIdeal.S_, .f32⟩ : BufTy).Contents (Elt F))) (eq0 (at_ fa8 (i := 94) rfl) :) (eq0 (at_ fb2 (i := 51) rfl) :)
  have e170 : @Eq ((⟨Cert.KernelIdeal.S131072, .f32⟩ : BufTy).Contents (Elt F)) (Φ₁ (Proc.devRef .tc Cert.KernelIdeal.main_v250)) (Φ₂ (Proc.devRef .tc Cert.ReferenceIdeal.main_v250)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 52) rfl) :) e169
  have e171 : @Eq ((⟨Cert.KernelIdeal.S131072, .f32⟩ : BufTy).Contents (Elt F)) (Φ₁ (Proc.devRef .tc Cert.KernelIdeal.main_v251)) (Φ₂ (Proc.devRef .tc Cert.ReferenceIdeal.main_v251)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 53) rfl) :) e170 e33
  have e172 : @Eq ((⟨Cert.KernelIdeal.S1x131072, .f32⟩ : BufTy).Contents (Elt F)) (Φ₁ (Proc.devRef .tc Cert.KernelIdeal.main_v252)) (Φ₂ (Proc.devRef .tc Cert.ReferenceIdeal.main_v252)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 54) rfl) :) e171
  have e173 : @Eq ((⟨Cert.KernelIdeal.S32x131072, .f32⟩ : BufTy).Contents (Elt F)) (Φ₁ (Proc.devRef .tc Cert.KernelIdeal.main_v253)) (Φ₂ (Proc.devRef .tc Cert.ReferenceIdeal.main_v253)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 55) rfl) :) e172
  have e174 : @Eq ((⟨Cert.KernelIdeal.S32x131072, .f32⟩ : BufTy).Contents (Elt F)) (Φ₁ (Proc.devRef .tc Cert.KernelIdeal.main_v254)) (Φ₂ (Proc.devRef .tc Cert.ReferenceIdeal.main_v254)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 56) rfl) :) e128 e173
  have e175 : @Eq ((⟨Cert.KernelIdeal.S1x131072, .f32⟩ : BufTy).Contents (Elt F)) (Φ₁ (Proc.devRef .tc Cert.KernelIdeal.main_v255)) (Φ₂ (Proc.devRef .tc Cert.ReferenceIdeal.main_v255)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 57) rfl) :) e34
  have e176 : @Eq ((⟨Cert.KernelIdeal.S32x131072, .f32⟩ : BufTy).Contents (Elt F)) (Φ₁ (Proc.devRef .tc Cert.KernelIdeal.main_v256)) (Φ₂ (Proc.devRef .tc Cert.ReferenceIdeal.main_v256)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 58) rfl) :) e175
  have e177 : @Eq ((⟨Cert.KernelIdeal.S32x131072, .f32⟩ : BufTy).Contents (Elt F)) (Φ₁ (Proc.devRef .tc Cert.KernelIdeal.main_v257)) (Φ₂ (Proc.devRef .tc Cert.ReferenceIdeal.main_v257)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 59) rfl) :) e174 e176
  have e178 : @Eq ((⟨Cert.KernelIdeal.S32x131072, .f32⟩ : BufTy).Contents (Elt F)) (Φ₁ (Proc.devRef .tc Cert.KernelIdeal.main_v258)) (Φ₂ (Proc.devRef .tc Cert.ReferenceIdeal.main_v258)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 0) rfl) :) e168 e177
  have e179 : @Eq ((⟨Cert.KernelIdeal.S1x131072, .f32⟩ : BufTy).Contents (Elt F)) (Φ₁ (Proc.devRef .tc Cert.KernelIdeal.main_v259)) (Φ₂ (Proc.devRef .tc Cert.ReferenceIdeal.main_v259)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 1) rfl) :) e33
  have e180 : @Eq ((⟨Cert.KernelIdeal.S32x131072, .f32⟩ : BufTy).Contents (Elt F)) (Φ₁ (Proc.devRef .tc Cert.KernelIdeal.main_v260)) (Φ₂ (Proc.devRef .tc Cert.ReferenceIdeal.main_v260)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 2) rfl) :) e179
  have e181 : @Eq ((⟨Cert.KernelIdeal.S32x131072, .f32⟩ : BufTy).Contents (Elt F)) (Φ₁ (Proc.devRef .tc Cert.KernelIdeal.main_v261)) (Φ₂ (Proc.devRef .tc Cert.ReferenceIdeal.main_v261)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 3) rfl) :) e146 e180
  have e182 : @Eq ((⟨Cert.KernelIdeal.S1x131072, .f32⟩ : BufTy).Contents (Elt F)) (Φ₁ (Proc.devRef .tc Cert.KernelIdeal.main_v262)) (Φ₂ (Proc.devRef .tc Cert.ReferenceIdeal.main_v262)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 4) rfl) :) e34
  have e183 : @Eq ((⟨Cert.KernelIdeal.S32x131072, .f32⟩ : BufTy).Contents (Elt F)) (Φ₁ (Proc.devRef .tc Cert.KernelIdeal.main_v263)) (Φ₂ (Proc.devRef .tc Cert.ReferenceIdeal.main_v263)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 5) rfl) :) e182
  have e184 : @Eq ((⟨Cert.KernelIdeal.S32x131072, .f32⟩ : BufTy).Contents (Elt F)) (Φ₁ (Proc.devRef .tc Cert.KernelIdeal.main_v264)) (Φ₂ (Proc.devRef .tc Cert.ReferenceIdeal.main_v264)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 6) rfl) :) e181 e183
  have e185 : @Eq ((⟨Cert.KernelIdeal.S32x131072, .f32⟩ : BufTy).Contents (Elt F)) (Φ₁ (Proc.devRef .tc Cert.KernelIdeal.main_v265)) (Φ₂ (Proc.devRef .tc Cert.ReferenceIdeal.main_v265)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 7) rfl) :) e178 e184
  have e186 : @Eq ((⟨Cert.KernelIdeal.S131072x32, .f32⟩ : BufTy).Contents (Elt F)) (Φ₁ (Proc.devRef .tc Cert.KernelIdeal.main_v266)) (Φ₂ (Proc.devRef .tc Cert.ReferenceIdeal.main_v266)) := by rw [eq1 (at_ fa8 (i := 111) rfl), eq1 (at_ fb3 (i := 8) rfl), e185] <;> rfl
  exact e186

end Cert.Bridge

end
-- ==== Proof.RefOps1.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 8 of @main: 60 operations, writing buffers 568 … 627. -/
abbrev w8 : List (HloOp τ sig (Elt F)) :=
  [ StableHlo.unary main_c_130 main_v347 (broadcastInDim S131072 ![] bcast_S_S131072 : (⟨S_, .i32⟩ : BufTy).Contents (Elt F) → (⟨S131072, .i32⟩ : BufTy).Contents (Elt F)),
    StableHlo.binary main_v304 main_v347 main_v348 (cmpi .slt : (⟨S131072, .i32⟩ : BufTy).Contents (Elt F) → (⟨S131072, .i32⟩ : BufTy).Contents (Elt F) → (⟨S131072, .i1⟩ : BufTy).Contents (Elt F)),
    StableHlo.nullary main_c_131 (constantI S_ 32 150#32),
    StableHlo.unary main_c_131 main_v349 (broadcastInDim S131072 ![] bcast_S_S131072 : (⟨S_, .i32⟩ : BufTy).Contents (Elt F) → (⟨S131072, .i32⟩ : BufTy).Contents (Elt F)),
    StableHlo.binary main_v304 main_v349 main_v350 (addi : (⟨S131072, .i32⟩ : BufTy).Contents (Elt F) → (⟨S131072, .i32⟩ : BufTy).Contents (Elt F) → (⟨S131072, .i32⟩ : BufTy).Contents (Elt F)),
    StableHlo.ternary main_v348 main_v350 main_v304 main_v351 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_132 (constantI S_ 32 0#32),
    StableHlo.unary main_c_132 main_v352 (broadcastInDim S131072 ![] bcast_S_S131072 : (⟨S_, .i32⟩ : BufTy).Contents (Elt F) → (⟨S131072, .i32⟩ : BufTy).Contents (Elt F)),
    StableHlo.binary main_v299 main_v352 main_v353 (cmpi .slt : (⟨S131072, .i32⟩ : BufTy).Contents (Elt F) → (⟨S131072, .i32⟩ : BufTy).Contents (Elt F) → (⟨S131072, .i1⟩ : BufTy).Contents (Elt F)),
    StableHlo.nullary main_c_133 (constantI S_ 32 64#32),
    StableHlo.unary main_c_133 main_v354 (broadcastInDim S131072 ![] bcast_S_S131072 : (⟨S_, .i32⟩ : BufTy).Contents (Elt F) → (⟨S131072, .i32⟩ : BufTy).Contents (Elt F)),
    StableHlo.binary main_v299 main_v354 main_v355 (addi : (⟨S131072, .i32⟩ : BufTy).Contents (Elt F) → (⟨S131072, .i32⟩ : BufTy).Contents (Elt F) → (⟨S131072, .i32⟩ : BufTy).Contents (Elt F)),
    StableHlo.ternary main_v353 main_v355 main_v299 main_v356 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v351 main_v357 (broadcastInDim S131072x1 ![0] bcast_S131072_S131072x1_0 : (⟨S131072, .i32⟩ : BufTy).Contents (Elt F) → (⟨S131072x1, .i32⟩ : BufTy).Contents (Elt F)),
    StableHlo.unary main_v356 main_v358 (broadcastInDim S131072x1 ![0] bcast_S131072_S131072x1_0 : (⟨S131072, .i32⟩ : BufTy).Contents (Elt F) → (⟨S131072x1, .i32⟩ : BufTy).Contents (Elt F)),
    StableHlo.binary main_v357 main_v358 main_v359 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg4 main_v359 main_v360 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_cst_134 (constant S_ .f32 0x3F800000#32),
    StableHlo.unary main_cst_134 main_v361 (broadcastInDim S131072 ![] bcast_S_S131072 : (⟨S_, .f32⟩ : BufTy).Contents (Elt F) → (⟨S131072, .f32⟩ : BufTy).Contents (Elt F)),
    StableHlo.binary main_v361 main_v293 main_v362 (subf : (⟨S131072, .f32⟩ : BufTy).Contents (Elt F) → (⟨S131072, .f32⟩ : BufTy).Contents (Elt F) → (⟨S131072, .f32⟩ : BufTy).Contents (Elt F)),
    StableHlo.unary main_v362 main_v363 (broadcastInDim S1x131072 ![1] bcast_S131072_S1x131072_1 : (⟨S131072, .f32⟩ : BufTy).Contents (Elt F) → (⟨S1x131072, .f32⟩ : BufTy).Contents (Elt F)),
    StableHlo.unary main_v363 main_v364 (broadcastInDim S32x131072 ![0, 1] bcast_S1x131072_S32x131072_0_1 : (⟨S1x131072, .f32⟩ : BufTy).Contents (Elt F) → (⟨S32x131072, .f32⟩ : BufTy).Contents (Elt F)),
    StableHlo.binary main_v318 main_v364 main_v365 (mulf : (⟨S32x131072, .f32⟩ : BufTy).Contents (Elt F) → (⟨S32x131072, .f32⟩ : BufTy).Contents (Elt F) → (⟨S32x131072, .f32⟩ : BufTy).Contents (Elt F)),
    StableHlo.nullary main_cst_135 (constant S_ .f32 0x3F800000#32),
    StableHlo.unary main_cst_135 main_v366 (broadcastInDim S131072 ![] bcast_S_S131072 : (⟨S_, .f32⟩ : BufTy).Contents (Elt F) → (⟨S131072, .f32⟩ : BufTy).Contents (Elt F)),
    StableHlo.binary main_v366 main_v294 main_v367 (subf : (⟨S131072, .f32⟩ : BufTy).Contents (Elt F) → (⟨S131072, .f32⟩ : BufTy).Contents (Elt F) → (⟨S131072, .f32⟩ : BufTy).Contents (Elt F)),
    StableHlo.unary main_v367 main_v368 (broadcastInDim S1x131072 ![1] bcast_S131072_S1x131072_1 : (⟨S131072, .f32⟩ : BufTy).Contents (Elt F) → (⟨S1x131072, .f32⟩ : BufTy).Contents (Elt F)),
    StableHlo.unary main_v368 main_v369 (broadcastInDim S32x131072 ![0, 1] bcast_S1x131072_S32x131072_0_1 : (⟨S1x131072, .f32⟩ : BufTy).Contents (Elt F) → (⟨S32x131072, .f32⟩ : BufTy).Contents (Elt F)),
    StableHlo.binary main_v365 main_v369 main_v370 (mulf : (⟨S32x131072, .f32⟩ : BufTy).Contents (Elt F) → (⟨S32x131072, .f32⟩ : BufTy).Contents (Elt F) → (⟨S32x131072, .f32⟩ : BufTy).Contents (Elt F)),
    StableHlo.unary main_v293 main_v371 (broadcastInDim S1x131072 ![1] bcast_S131072_S1x131072_1 : (⟨S131072, .f32⟩ : BufTy).Contents (Elt F) → (⟨S1x131072, .f32⟩ : BufTy).Contents (Elt F)),
    StableHlo.unary main_v371 main_v372 (broadcastInDim S32x131072 ![0, 1] bcast_S1x131072_S32x131072_0_1 : (⟨S1x131072, .f32⟩ : BufTy).Contents (Elt F) → (⟨S32x131072, .f32⟩ : BufTy).Contents (Elt F)),
    StableHlo.binary main_v332 main_v372 main_v373 (mulf : (⟨S32x131072, .f32⟩ : BufTy).Contents (Elt F) → (⟨S32x131072, .f32⟩ : BufTy).Contents (Elt F) → (⟨S32x131072, .f32⟩ : BufTy).Contents (Elt F)),
    StableHlo.nullary main_cst_136 (constant S_ .f32 0x3F800000#32),
    StableHlo.unary main_cst_136 main_v374 (broadcastInDim S131072 ![] bcast_S_S131072 : (⟨S_, .f32⟩ : BufTy).Contents (Elt F) → (⟨S131072, .f32⟩ : BufTy).Contents (Elt F)),
    StableHlo.binary main_v374 main_v294 main_v375 (subf : (⟨S131072, .f32⟩ : BufTy).Contents (Elt F) → (⟨S131072, .f32⟩ : BufTy).Contents (Elt F) → (⟨S131072, .f32⟩ : BufTy).Contents (Elt F)),
    StableHlo.unary main_v375 main_v376 (broadcastInDim S1x131072 ![1] bcast_S131072_S1x131072_1 : (⟨S131072, .f32⟩ : BufTy).Contents (Elt F) → (⟨S1x131072, .f32⟩ : BufTy).Contents (Elt F)),
    StableHlo.unary main_v376 main_v377 (broadcastInDim S32x131072 ![0, 1] bcast_S1x131072_S32x131072_0_1 : (⟨S1x131072, .f32⟩ : BufTy).Contents (Elt F) → (⟨S32x131072, .f32⟩ : BufTy).Contents (Elt F)),
    StableHlo.binary main_v373 main_v377 main_v378 (mulf : (⟨S32x131072, .f32⟩ : BufTy).Contents (Elt F) → (⟨S32x131072, .f32⟩ : BufTy).Contents (Elt F) → (⟨S32x131072, .f32⟩ : BufTy).Contents (Elt F)),
    StableHlo.binary main_v370 main_v378 main_v379 (addf : (⟨S32x131072, .f32⟩ : BufTy).Contents (Elt F) → (⟨S32x131072, .f32⟩ : BufTy).Contents (Elt F) → (⟨S32x131072, .f32⟩ : BufTy).Contents (Elt F)),
    StableHlo.nullary main_cst_137 (constant S_ .f32 0x3F800000#32),
    StableHlo.unary main_cst_137 main_v380 (broadcastInDim S131072 ![] bcast_S_S131072 : (⟨S_, .f32⟩ : BufTy).Contents (Elt F) → (⟨S131072, .f32⟩ : BufTy).Contents (Elt F)),
    StableHlo.binary main_v380 main_v293 main_v381 (subf : (⟨S131072, .f32⟩ : BufTy).Contents (Elt F) → (⟨S131072, .f32⟩ : BufTy).Contents (Elt F) → (⟨S131072, .f32⟩ : BufTy).Contents (Elt F)),
    StableHlo.unary main_v381 main_v382 (broadcastInDim S1x131072 ![1] bcast_S131072_S1x131072_1 : (⟨S131072, .f32⟩ : BufTy).Contents (Elt F) → (⟨S1x131072, .f32⟩ : BufTy).Contents (Elt F)),
    StableHlo.unary main_v382 main_v383 (broadcastInDim S32x131072 ![0, 1] bcast_S1x131072_S32x131072_0_1 : (⟨S1x131072, .f32⟩ : BufTy).Contents (Elt F) → (⟨S32x131072, .f32⟩ : BufTy).Contents (Elt F)),
    StableHlo.binary main_v346 main_v383 main_v384 (mulf : (⟨S32x131072, .f32⟩ : BufTy).Contents (Elt F) → (⟨S32x131072, .f32⟩ : BufTy).Contents (Elt F) → (⟨S32x131072, .f32⟩ : BufTy).Contents (Elt F)),
    StableHlo.unary main_v294 main_v385 (broadcastInDim S1x131072 ![1] bcast_S131072_S1x131072_1 : (⟨S131072, .f32⟩ : BufTy).Contents (Elt F) → (⟨S1x131072, .f32⟩ : BufTy).Contents (Elt F)),
    StableHlo.unary main_v385 main_v386 (broadcastInDim S32x131072 ![0, 1] bcast_S1x131072_S32x131072_0_1 : (⟨S1x131072, .f32⟩ : BufTy).Contents (Elt F) → (⟨S32x131072, .f32⟩ : BufTy).Contents (Elt F)),
    StableHlo.binary main_v384 main_v386 main_v387 (mulf : (⟨S32x131072, .f32⟩ : BufTy).Contents (Elt F) → (⟨S32x131072, .f32⟩ : BufTy).Contents (Elt F) → (⟨S32x131072, .f32⟩ : BufTy).Contents (Elt F)),
    StableHlo.binary main_v379 main_v387 main_v388 (addf : (⟨S32x131072, .f32⟩ : BufTy).Contents (Elt F) → (⟨S32x131072, .f32⟩ : BufTy).Contents (Elt F) → (⟨S32x131072, .f32⟩ : BufTy).Contents (Elt F)),
    StableHlo.unary main_v293 main_v389 (broadcastInDim S1x131072 ![1] bcast_S131072_S1x131072_1 : (⟨S131072, .f32⟩ : BufTy).Contents (Elt F) → (⟨S1x131072, .f32⟩ : BufTy).Contents (Elt F)),
    StableHlo.unary main_v389 main_v390 (broadcastInDim S32x131072 ![0, 1] bcast_S1x131072_S32x131072_0_1 : (⟨S1x131072, .f32⟩ : BufTy).Contents (Elt F) → (⟨S32x131072, .f32⟩ : BufTy).Contents (Elt F)),
    StableHlo.binary main_v360 main_v390 main_v391 (mulf : (⟨S32x131072, .f32⟩ : BufTy).Contents (Elt F) → (⟨S32x131072, .f32⟩ : BufTy).Contents (Elt F) → (⟨S32x131072, .f32⟩ : BufTy).Contents (Elt F)),
    StableHlo.unary main_v294 main_v392 (broadcastInDim S1x131072 ![1] bcast_S131072_S1x131072_1 : (⟨S131072, .f32⟩ : BufTy).Contents (Elt F) → (⟨S1x131072, .f32⟩ : BufTy).Contents (Elt F)),
    StableHlo.unary main_v392 main_v393 (broadcastInDim S32x131072 ![0, 1] bcast_S1x131072_S32x131072_0_1 : (⟨S1x131072, .f32⟩ : BufTy).Contents (Elt F) → (⟨S32x131072, .f32⟩ : BufTy).Contents (Elt F)),
    StableHlo.binary main_v391 main_v393 main_v394 (mulf : (⟨S32x131072, .f32⟩ : BufTy).Contents (Elt F) → (⟨S32x131072, .f32⟩ : BufTy).Contents (Elt F) → (⟨S32x131072, .f32⟩ : BufTy).Contents (Elt F)),
    StableHlo.binary main_v388 main_v394 main_v395 (addf : (⟨S32x131072, .f32⟩ : BufTy).Contents (Elt F) → (⟨S32x131072, .f32⟩ : BufTy).Contents (Elt F) → (⟨S32x131072, .f32⟩ : BufTy).Contents (Elt F)),
    StableHlo.unary main_v395 main_v396 ((transpose S131072x32 [1, 0] · transposes_S32x131072_S131072x32_1_0) : (⟨S32x131072, .f32⟩ : BufTy).Contents (Elt F) → (⟨S131072x32, .f32⟩ : BufTy).Contents (Elt F)),
    StableHlo.binary main_v267 main_v396 main_v397 (mulf : (⟨S131072x32, .f32⟩ : BufTy).Contents (Elt F) → (⟨S131072x32, .f32⟩ : BufTy).Contents (Elt F) → (⟨S131072x32, .f32⟩ : BufTy).Contents (Elt F)),
    StableHlo.nullary main_c_138 (constantI S_ 32 0#32),
    StableHlo.unary main_c_138 main_v398 (broadcastInDim S2 ![] bcast_S_S2 : (⟨S_, .i32⟩ : BufTy).Contents (Elt F) → (⟨S2, .i32⟩ : BufTy).Contents (Elt F)) ]
theorem w8_eq (c : Dev nD) : main_part8 (F := F) c = seq w8 := rfl
theorem w8_sub : (w8 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub ..⟩
theorem w8_fresh : (w8 : List (HloOp τ sig (Elt F))).Forall fun op => op.fresh = ∅ := by
  simp only [List.Forall]; repeat' constructor
set_option maxHeartbeats 4000000 in
theorem w8_chain : Chain 568 (w8 : List (HloOp τ sig (Elt F))) :=
  Chain.cons (stepAt_unary 568 _ _ _ rfl (by decide)) <|
  Chain.cons (stepAt_binary 569 _ _ _ _ rfl (by decide) (by decide)) <|
  Chain.cons (stepAt_nullary 570 _ _ rfl) <|
  Chain.cons (stepAt_unary 571 _ _ _ rfl (by decide)) <|
  Chain.cons (stepAt_binary 572 _ _ _ _ rfl (by decide) (by decide)) <|
  Chain.cons (stepAt_ternary 573 _ _ _ _ _ rfl (by decide) (by decide) (by decide)) <|
  Chain.cons (stepAt_nullary 574 _ _ rfl) <|
  Chain.cons (stepAt_unary 575 _ _ _ rfl (by decide)) <|
  Chain.cons (stepAt_binary 576 _ _ _ _ rfl (by decide) (by decide)) <|
  Chain.cons (stepAt_nullary 577 _ _ rfl) <|
  Chain.cons (stepAt_unary 578 _ _ _ rfl (by decide)) <|
  Chain.cons (stepAt_binary 579 _ _ _ _ rfl (by decide) (by decide)) <|
  Chain.cons (stepAt_ternary 580 _ _ _ _ _ rfl (by decide) (by decide) (by decide)) <|
  Chain.cons (stepAt_unary 581 _ _ _ rfl (by decide)) <|
  Chain.cons (stepAt_unary 582 _ _ _ rfl (by decide)) <|
  Chain.cons (stepAt_binary 583 _ _ _ _ rfl (by decide) (by decide)) <|
  Chain.cons (stepAt_binary 584 _ _ _ _ rfl (by decide) (by decide)) <|
  Chain.cons (stepAt_nullary 585 _ _ rfl) <|
  Chain.cons (stepAt_unary 586 _ _ _ rfl (by decide)) <|
  Chain.cons (stepAt_binary 587 _ _ _ _ rfl (by decide) (by decide)) <|
  Chain.cons (stepAt_unary 588 _ _ _ rfl (by decide)) <|
  Chain.cons (stepAt_unary 589 _ _ _ rfl (by decide)) <|
  Chain.cons (stepAt_binary 590 _ _ _ _ rfl (by decide) (by decide)) <|
  Chain.cons (stepAt_nullary 591 _ _ rfl) <|
  Chain.cons (stepAt_unary 592 _ _ _ rfl (by decide)) <|
  Chain.cons (stepAt_binary 593 _ _ _ _ rfl (by decide) (by decide)) <|
  Chain.cons (stepAt_unary 594 _ _ _ rfl (by decide)) <|
  Chain.cons (stepAt_unary 595 _ _ _ rfl (by decide)) <|
  Chain.cons (stepAt_binary 596 _ _ _ _ rfl (by decide) (by decide)) <|
  Chain.cons (stepAt_unary 597 _ _ _ rfl (by decide)) <|
  Chain.cons (stepAt_unary 598 _ _ _ rfl (by decide)) <|
  Chain.cons (stepAt_binary 599 _ _ _ _ rfl (by decide) (by decide)) <|
  Chain.cons (stepAt_nullary 600 _ _ rfl) <|
  Chain.cons (stepAt_unary 601 _ _ _ rfl (by decide)) <|
  Chain.cons (stepAt_binary 602 _ _ _ _ rfl (by decide) (by decide)) <|
  Chain.cons (stepAt_unary 603 _ _ _ rfl (by decide)) <|
  Chain.cons (stepAt_unary 604 _ _ _ rfl (by decide)) <|
  Chain.cons (stepAt_binary 605 _ _ _ _ rfl (by decide) (by decide)) <|
  Chain.cons (stepAt_binary 606 _ _ _ _ rfl (by decide) (by decide)) <|
  Chain.cons (stepAt_nullary 607 _ _ rfl) <|
  Chain.cons (stepAt_unary 608 _ _ _ rfl (by decide)) <|
  Chain.cons (stepAt_binary 609 _ _ _ _ rfl (by decide) (by decide)) <|
  Chain.cons (stepAt_unary 610 _ _ _ rfl (by decide)) <|
  Chain.cons (stepAt_unary 611 _ _ _ rfl (by decide)) <|
  Chain.cons (stepAt_binary 612 _ _ _ _ rfl (by decide) (by decide)) <|
  Chain.cons (stepAt_unary 613 _ _ _ rfl (by decide)) <|
  Chain.cons (stepAt_unary 614 _ _ _ rfl (by decide)) <|
  Chain.cons (stepAt_binary 615 _ _ _ _ rfl (by decide) (by decide)) <|
  Chain.cons (stepAt_binary 616 _ _ _ _ rfl (by decide) (by decide)) <|
  Chain.cons (stepAt_unary 617 _ _ _ rfl (by decide)) <|
  Chain.cons (stepAt_unary 618 _ _ _ rfl (by decide)) <|
  Chain.cons (stepAt_binary 619 _ _ _ _ rfl (by decide) (by decide)) <|
  Chain.cons (stepAt_unary 620 _ _ _ rfl (by decide)) <|
  Chain.cons (stepAt_unary 621 _ _ _ rfl (by decide)) <|
  Chain.cons (stepAt_binary 622 _ _ _ _ rfl (by decide) (by decide)) <|
  Chain.cons (stepAt_binary 623 _ _ _ _ rfl (by decide) (by decide)) <|
  Chain.cons (stepAt_unary 624 _ _ _ rfl (by decide)) <|
  Chain.cons (stepAt_binary 625 _ _ _ _ rfl (by decide) (by decide)) <|
  Chain.cons (stepAt_nullary 626 _ _ rfl) <|
  Chain.cons (stepAt_unary 627 _ _ _ rfl (by decide)) <|
  Chain.nil
theorem w8_length : (w8 : List (HloOp τ sig (Elt F))).length = 60 := rfl

/-- Window 9 of @main: 80 operations, writing buffers 628 … 707. -/
abbrev w9 : List (HloOp τ sig (Elt F)) :=
  [ StableHlo.binary main_c_2 main_v398 main_v399 (cmpi .slt : (⟨S2, .i32⟩ : BufTy).Contents (Elt F) → (⟨S2, .i32⟩ : BufTy).Contents (Elt F) → (⟨S2, .i1⟩ : BufTy).Contents (Elt F)),
    StableHlo.nullary main_c_139 (constantI S_ 32 4#32),
    StableHlo.unary main_c_139 main_v400 (broadcastInDim S2 ![] bcast_S_S2 : (⟨S_, .i32⟩ : BufTy).Contents (Elt F) → (⟨S2, .i32⟩ : BufTy).Contents (Elt F)),
    StableHlo.binary main_c_2 main_v400 main_v401 (addi : (⟨S2, .i32⟩ : BufTy).Contents (Elt F) → (⟨S2, .i32⟩ : BufTy).Contents (Elt F) → (⟨S2, .i32⟩ : BufTy).Contents (Elt F)),
    StableHlo.ternary main_v399 main_v401 main_c_2 main_v402 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v402 main_v403 (broadcastInDim S2x1 ![0] bcast_S2_S2x1_0 : (⟨S2, .i32⟩ : BufTy).Contents (Elt F) → (⟨S2x1, .i32⟩ : BufTy).Contents (Elt F)),
    StableHlo.binary main_v8 main_v403 main_v404 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v404 main_v405 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v405 main_v406 rfl shapeCasts_S131072x1_S131072,
    StableHlo.nullary main_cst_140 (constant S_ .f32 0x3F800000#32),
    StableHlo.unary main_cst_140 main_v407 (broadcastInDim S131072 ![] bcast_S_S131072 : (⟨S_, .f32⟩ : BufTy).Contents (Elt F) → (⟨S131072, .f32⟩ : BufTy).Contents (Elt F)),
    StableHlo.binary main_v406 main_v407 main_v408 (addf : (⟨S131072, .f32⟩ : BufTy).Contents (Elt F) → (⟨S131072, .f32⟩ : BufTy).Contents (Elt F) → (⟨S131072, .f32⟩ : BufTy).Contents (Elt F)),
    StableHlo.nullary main_cst_141 (constant S_ .f32 0x3F000000#32),
    StableHlo.unary main_cst_141 main_v409 (broadcastInDim S131072 ![] bcast_S_S131072 : (⟨S_, .f32⟩ : BufTy).Contents (Elt F) → (⟨S131072, .f32⟩ : BufTy).Contents (Elt F)),
    StableHlo.binary main_v408 main_v409 main_v410 (mulf : (⟨S131072, .f32⟩ : BufTy).Contents (Elt F) → (⟨S131072, .f32⟩ : BufTy).Contents (Elt F) → (⟨S131072, .f32⟩ : BufTy).Contents (Elt F)),
    StableHlo.nullary main_cst_142 (constant S_ .f32 0x427C0000#32),
    StableHlo.unary main_cst_142 main_v411 (broadcastInDim S131072 ![] bcast_S_S131072 : (⟨S_, .f32⟩ : BufTy).Contents (Elt F) → (⟨S131072, .f32⟩ : BufTy).Contents (Elt F)),
    StableHlo.binary main_v410 main_v411 main_v412 (mulf : (⟨S131072, .f32⟩ : BufTy).Contents (Elt F) → (⟨S131072, .f32⟩ : BufTy).Contents (Elt F) → (⟨S131072, .f32⟩ : BufTy).Contents (Elt F)),
    StableHlo.unary main_v404 main_v413 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v413 main_v414 rfl shapeCasts_S131072x1_S131072,
    StableHlo.nullary main_cst_143 (constant S_ .f32 0x3F800000#32),
    StableHlo.unary main_cst_143 main_v415 (broadcastInDim S131072 ![] bcast_S_S131072 : (⟨S_, .f32⟩ : BufTy).Contents (Elt F) → (⟨S131072, .f32⟩ : BufTy).Contents (Elt F)),
    StableHlo.binary main_v414 main_v415 main_v416 (addf : (⟨S131072, .f32⟩ : BufTy).Contents (Elt F) → (⟨S131072, .f32⟩ : BufTy).Contents (Elt F) → (⟨S131072, .f32⟩ : BufTy).Contents (Elt F)),
    StableHlo.nullary main_cst_144 (constant S_ .f32 0x3F000000#32),
    StableHlo.unary main_cst_144 main_v417 (broadcastInDim S131072 ![] bcast_S_S131072 : (⟨S_, .f32⟩ : BufTy).Contents (Elt F) → (⟨S131072, .f32⟩ : BufTy).Contents (Elt F)),
    StableHlo.binary main_v416 main_v417 main_v418 (mulf : (⟨S131072, .f32⟩ : BufTy).Contents (Elt F) → (⟨S131072, .f32⟩ : BufTy).Contents (Elt F) → (⟨S131072, .f32⟩ : BufTy).Contents (Elt F)),
    StableHlo.nullary main_cst_145 (constant S_ .f32 0x427C0000#32),
    StableHlo.unary main_cst_145 main_v419 (broadcastInDim S131072 ![] bcast_S_S131072 : (⟨S_, .f32⟩ : BufTy).Contents (Elt F) → (⟨S131072, .f32⟩ : BufTy).Contents (Elt F)),
    StableHlo.binary main_v418 main_v419 main_v420 (mulf : (⟨S131072, .f32⟩ : BufTy).Contents (Elt F) → (⟨S131072, .f32⟩ : BufTy).Contents (Elt F) → (⟨S131072, .f32⟩ : BufTy).Contents (Elt F)),
    StableHlo.unary main_v412 main_v421 (Host.floor : (⟨S131072, .f32⟩ : BufTy).Contents (Elt F) → (⟨S131072, .f32⟩ : BufTy).Contents (Elt F)),
    StableHlo.unary main_v420 main_v422 (Host.floor : (⟨S131072, .f32⟩ : BufTy).Contents (Elt F) → (⟨S131072, .f32⟩ : BufTy).Contents (Elt F)),
    StableHlo.binary main_v412 main_v421 main_v423 (subf : (⟨S131072, .f32⟩ : BufTy).Contents (Elt F) → (⟨S131072, .f32⟩ : BufTy).Contents (Elt F) → (⟨S131072, .f32⟩ : BufTy).Contents (Elt F)),
    StableHlo.binary main_v420 main_v422 main_v424 (subf : (⟨S131072, .f32⟩ : BufTy).Contents (Elt F) → (⟨S131072, .f32⟩ : BufTy).Contents (Elt F) → (⟨S131072, .f32⟩ : BufTy).Contents (Elt F)),
    StableHlo.unary main_v421 main_v425 (fptosi 32 : (⟨S131072, .f32⟩ : BufTy).Contents (Elt F) → (⟨S131072, .i32⟩ : BufTy).Contents (Elt F)),
    StableHlo.nullary main_c_146 (constantI S_ 32 0#32),
    StableHlo.nullary main_c_147 (constantI S_ 32 63#32),
    StableHlo.TRef.unary (.of main_c_146) main_call12.v0 id,
    StableHlo.TRef.unary main_call12.v0 main_call12.v1 (broadcastInDim S131072 ![] bcast_S_S131072),
    StableHlo.TRef.binary main_call12.v1 (.of main_v425) main_call12.v2 maxsi,
    StableHlo.TRef.unary (.of main_c_147) main_call12.v3 id,
    StableHlo.TRef.unary main_call12.v3 main_call12.v4 (broadcastInDim S131072 ![] bcast_S_S131072),
    StableHlo.TRef.binary main_call12.v4 main_call12.v2 main_call12.v5 minsi,
    StableHlo.nullary main_c_148 (constantI S_ 32 1#32),
    StableHlo.unary main_c_148 main_v427 (broadcastInDim S131072 ![] bcast_S_S131072 : (⟨S_, .i32⟩ : BufTy).Contents (Elt F) → (⟨S131072, .i32⟩ : BufTy).Contents (Elt F)),
    StableHlo.binary main_v426 main_v427 main_v428 (addi : (⟨S131072, .i32⟩ : BufTy).Contents (Elt F) → (⟨S131072, .i32⟩ : BufTy).Contents (Elt F) → (⟨S131072, .i32⟩ : BufTy).Contents (Elt F)),
    StableHlo.nullary main_c_149 (constantI S_ 32 0#32),
    StableHlo.nullary main_c_150 (constantI S_ 32 63#32),
    StableHlo.TRef.unary (.of main_c_149) main_call13.v0 id,
    StableHlo.TRef.unary main_call13.v0 main_call13.v1 (broadcastInDim S131072 ![] bcast_S_S131072),
    StableHlo.TRef.binary main_call13.v1 (.of main_v428) main_call13.v2 maxsi,
    StableHlo.TRef.unary (.of main_c_150) main_call13.v3 id,
    StableHlo.TRef.unary main_call13.v3 main_call13.v4 (broadcastInDim S131072 ![] bcast_S_S131072),
    StableHlo.TRef.binary main_call13.v4 main_call13.v2 main_call13.v5 minsi,
    StableHlo.unary main_v422 main_v430 (fptosi 32 : (⟨S131072, .f32⟩ : BufTy).Contents (Elt F) → (⟨S131072, .i32⟩ : BufTy).Contents (Elt F)),
    StableHlo.nullary main_c_151 (constantI S_ 32 0#32),
    StableHlo.nullary main_c_152 (constantI S_ 32 63#32),
    StableHlo.TRef.unary (.of main_c_151) main_call14.v0 id,
    StableHlo.TRef.unary main_call14.v0 main_call14.v1 (broadcastInDim S131072 ![] bcast_S_S131072),
    StableHlo.TRef.binary main_call14.v1 (.of main_v430) main_call14.v2 maxsi,
    StableHlo.TRef.unary (.of main_c_152) main_call14.v3 id,
    StableHlo.TRef.unary main_call14.v3 main_call14.v4 (broadcastInDim S131072 ![] bcast_S_S131072),
    StableHlo.TRef.binary main_call14.v4 main_call14.v2 main_call14.v5 minsi,
    StableHlo.nullary main_c_153 (constantI S_ 32 1#32),
    StableHlo.unary main_c_153 main_v432 (broadcastInDim S131072 ![] bcast_S_S131072 : (⟨S_, .i32⟩ : BufTy).Contents (Elt F) → (⟨S131072, .i32⟩ : BufTy).Contents (Elt F)),
    StableHlo.binary main_v431 main_v432 main_v433 (addi : (⟨S131072, .i32⟩ : BufTy).Contents (Elt F) → (⟨S131072, .i32⟩ : BufTy).Contents (Elt F) → (⟨S131072, .i32⟩ : BufTy).Contents (Elt F)),
    StableHlo.nullary main_c_154 (constantI S_ 32 0#32),
    StableHlo.nullary main_c_155 (constantI S_ 32 63#32),
    StableHlo.TRef.unary (.of main_c_154) main_call15.v0 id,
    StableHlo.TRef.unary main_call15.v0 main_call15.v1 (broadcastInDim S131072 ![] bcast_S_S131072),
    StableHlo.TRef.binary main_call15.v1 (.of main_v433) main_call15.v2 maxsi,
    StableHlo.TRef.unary (.of main_c_155) main_call15.v3 id,
    StableHlo.TRef.unary main_call15.v3 main_call15.v4 (broadcastInDim S131072 ![] bcast_S_S131072),
    StableHlo.TRef.binary main_call15.v4 main_call15.v2 main_call15.v5 minsi,
    StableHlo.nullary main_c_156 (constantI S_ 32 0#32),
    StableHlo.unary main_c_156 main_v435 (broadcastInDim S131072 ![] bcast_S_S131072 : (⟨S_, .i32⟩ : BufTy).Contents (Elt F) → (⟨S131072, .i32⟩ : BufTy).Contents (Elt F)),
    StableHlo.binary main_v431 main_v435 main_v436 (cmpi .slt : (⟨S131072, .i32⟩ : BufTy).Contents (Elt F) → (⟨S131072, .i32⟩ : BufTy).Contents (Elt F) → (⟨S131072, .i1⟩ : BufTy).Contents (Elt F)),
    StableHlo.nullary main_c_157 (constantI S_ 32 64#32),
    StableHlo.unary main_c_157 main_v437 (broadcastInDim S131072 ![] bcast_S_S131072 : (⟨S_, .i32⟩ : BufTy).Contents (Elt F) → (⟨S131072, .i32⟩ : BufTy).Contents (Elt F)),
    StableHlo.binary main_v431 main_v437 main_v438 (addi : (⟨S131072, .i32⟩ : BufTy).Contents (Elt F) → (⟨S131072, .i32⟩ : BufTy).Contents (Elt F) → (⟨S131072, .i32⟩ : BufTy).Contents (Elt F)),
    StableHlo.ternary main_v436 main_v438 main_v431 main_v439 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]
theorem w9_eq (c : Dev nD) : main_part9 (F := F) c = seq w9 := rfl
theorem w9_sub : (w9 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem w9_fresh : (w9 : List (HloOp τ sig (Elt F))).Forall fun op => op.fresh = ∅ := by
  simp only [List.Forall]; repeat' constructor
set_option maxHeartbeats 4000000 in
theorem w9_chain : Chain 628 (w9 : List (HloOp τ sig (Elt F))) :=
  Chain.cons (stepAt_binary 628 _ _ _ _ rfl (by decide) (by decide)) <|
  Chain.cons (stepAt_nullary 629 _ _ rfl) <|
  Chain.cons (stepAt_unary 630 _ _ _ rfl (by decide)) <|
  Chain.cons (stepAt_binary 631 _ _ _ _ rfl (by decide) (by decide)) <|
  Chain.cons (stepAt_ternary 632 _ _ _ _ _ rfl (by decide) (by decide) (by decide)) <|
  Chain.cons (stepAt_unary 633 _ _ _ rfl (by decide)) <|
  Chain.cons (stepAt_binary 634 _ _ _ _ rfl (by decide) (by decide)) <|
  Chain.cons (stepAt_unary 635 _ _ _ rfl (by decide)) <|
  Chain.cons (stepAt_reshape 636 _ _ _ _ rfl (by decide)) <|
  Chain.cons (stepAt_nullary 637 _ _ rfl) <|
  Chain.cons (stepAt_unary 638 _ _ _ rfl (by decide)) <|
  Chain.cons (stepAt_binary 639 _ _ _ _ rfl (by decide) (by decide)) <|
  Chain.cons (stepAt_nullary 640 _ _ rfl) <|
  Chain.cons (stepAt_unary 641 _ _ _ rfl (by decide)) <|
  Chain.cons (stepAt_binary 642 _ _ _ _ rfl (by decide) (by decide)) <|
  Chain.cons (stepAt_nullary 643 _ _ rfl) <|
  Chain.cons (stepAt_unary 644 _ _ _ rfl (by decide)) <|
  Chain.cons (stepAt_binary 645 _ _ _ _ rfl (by decide) (by decide)) <|
  Chain.cons (stepAt_unary 646 _ _ _ rfl (by decide)) <|
  Chain.cons (stepAt_reshape 647 _ _ _ _ rfl (by decide)) <|
  Chain.cons (stepAt_nullary 648 _ _ rfl) <|
  Chain.cons (stepAt_unary 649 _ _ _ rfl (by decide)) <|
  Chain.cons (stepAt_binary 650 _ _ _ _ rfl (by decide) (by decide)) <|
  Chain.cons (stepAt_nullary 651 _ _ rfl) <|
  Chain.cons (stepAt_unary 652 _ _ _ rfl (by decide)) <|
  Chain.cons (stepAt_binary 653 _ _ _ _ rfl (by decide) (by decide)) <|
  Chain.cons (stepAt_nullary 654 _ _ rfl) <|
  Chain.cons (stepAt_unary 655 _ _ _ rfl (by decide)) <|
  Chain.cons (stepAt_binary 656 _ _ _ _ rfl (by decide) (by decide)) <|
  Chain.cons (stepAt_unary 657 _ _ _ rfl (by decide)) <|
  Chain.cons (stepAt_unary 658 _ _ _ rfl (by decide)) <|
  Chain.cons (stepAt_binary 659 _ _ _ _ rfl (by decide) (by decide)) <|
  Chain.cons (stepAt_binary 660 _ _ _ _ rfl (by decide) (by decide)) <|
  Chain.cons (stepAt_unary 661 _ _ _ rfl (by decide)) <|
  Chain.cons (stepAt_nullary 662 _ _ rfl) <|
  Chain.cons (stepAt_nullary 663 _ _ rfl) <|
  Chain.cons (stepAt_unary 664 _ _ _ rfl (by decide)) <|
  Chain.cons (stepAt_unary 665 _ _ _ rfl (by decide)) <|
  Chain.cons (stepAt_binary 666 _ _ _ _ rfl (by decide) (by decide)) <|
  Chain.cons (stepAt_unary 667 _ _ _ rfl (by decide)) <|
  Chain.cons (stepAt_unary 668 _ _ _ rfl (by decide)) <|
  Chain.cons (stepAt_binary 669 _ _ _ _ rfl (by decide) (by decide)) <|
  Chain.cons (stepAt_nullary 670 _ _ rfl) <|
  Chain.cons (stepAt_unary 671 _ _ _ rfl (by decide)) <|
  Chain.cons (stepAt_binary 672 _ _ _ _ rfl (by decide) (by decide)) <|
  Chain.cons (stepAt_nullary 673 _ _ rfl) <|
  Chain.cons (stepAt_nullary 674 _ _ rfl) <|
  Chain.cons (stepAt_unary 675 _ _ _ rfl (by decide)) <|
  Chain.cons (stepAt_unary 676 _ _ _ rfl (by decide)) <|
  Chain.cons (stepAt_binary 677 _ _ _ _ rfl (by decide) (by decide)) <|
  Chain.cons (stepAt_unary 678 _ _ _ rfl (by decide)) <|
  Chain.cons (stepAt_unary 679 _ _ _ rfl (by decide)) <|
  Chain.cons (stepAt_binary 680 _ _ _ _ rfl (by decide) (by decide)) <|
  Chain.cons (stepAt_unary 681 _ _ _ rfl (by decide)) <|
  Chain.cons (stepAt_nullary 682 _ _ rfl) <|
  Chain.cons (stepAt_nullary 683 _ _ rfl) <|
  Chain.cons (stepAt_unary 684 _ _ _ rfl (by decide)) <|
  Chain.cons (stepAt_unary 685 _ _ _ rfl (by decide)) <|
  Chain.cons (stepAt_binary 686 _ _ _ _ rfl (by decide) (by decide)) <|
  Chain.cons (stepAt_unary 687 _ _ _ rfl (by decide)) <|
  Chain.cons (stepAt_unary 688 _ _ _ rfl (by decide)) <|
  Chain.cons (stepAt_binary 689 _ _ _ _ rfl (by decide) (by decide)) <|
  Chain.cons (stepAt_nullary 690 _ _ rfl) <|
  Chain.cons (stepAt_unary 691 _ _ _ rfl (by decide)) <|
  Chain.cons (stepAt_binary 692 _ _ _ _ rfl (by decide) (by decide)) <|
  Chain.cons (stepAt_nullary 693 _ _ rfl) <|
  Chain.cons (stepAt_nullary 694 _ _ rfl) <|
  Chain.cons (stepAt_unary 695 _ _ _ rfl (by decide)) <|
  Chain.cons (stepAt_unary 696 _ _ _ rfl (by decide)) <|
  Chain.cons (stepAt_binary 697 _ _ _ _ rfl (by decide) (by decide)) <|
  Chain.cons (stepAt_unary 698 _ _ _ rfl (by decide)) <|
  Chain.cons (stepAt_unary 699 _ _ _ rfl (by decide)) <|
  Chain.cons (stepAt_binary 700 _ _ _ _ rfl (by decide) (by decide)) <|
  Chain.cons (stepAt_nullary 701 _ _ rfl) <|
  Chain.cons (stepAt_unary 702 _ _ _ rfl (by decide)) <|
  Chain.cons (stepAt_binary 703 _ _ _ _ rfl (by decide) (by decide)) <|
  Chain.cons (stepAt_nullary 704 _ _ rfl) <|
  Chain.cons (stepAt_unary 705 _ _ _ rfl (by decide)) <|
  Chain.cons (stepAt_binary 706 _ _ _ _ rfl (by decide) (by decide)) <|
  Chain.cons (stepAt_ternary 707 _ _ _ _ _ rfl (by decide) (by decide) (by decide)) <|
  Chain.nil
theorem w9_length : (w9 : List (HloOp τ sig (Elt F))).length = 80 := rfl

/-- Window 10 of @main: 60 operations, writing buffers 708 … 767. -/
abbrev w10 : List (HloOp τ sig (Elt F)) :=
  [ StableHlo.nullary main_c_158 (constantI S_ 32 0#32),
    StableHlo.unary main_c_158 main_v440 (broadcastInDim S131072 ![] bcast_S_S131072 : (⟨S_, .i32⟩ : BufTy).Contents (Elt F) → (⟨S131072, .i32⟩ : BufTy).Contents (Elt F)),
    StableHlo.binary main_v426 main_v440 main_v441 (cmpi .slt : (⟨S131072, .i32⟩ : BufTy).Contents (Elt F) → (⟨S131072, .i32⟩ : BufTy).Contents (Elt F) → (⟨S131072, .i1⟩ : BufTy).Contents (Elt F)),
    StableHlo.nullary main_c_159 (constantI S_ 32 64#32),
    StableHlo.unary main_c_159 main_v442 (broadcastInDim S131072 ![] bcast_S_S131072 : (⟨S_, .i32⟩ : BufTy).Contents (Elt F) → (⟨S131072, .i32⟩ : BufTy).Contents (Elt F)),
    StableHlo.binary main_v426 main_v442 main_v443 (addi : (⟨S131072, .i32⟩ : BufTy).Contents (Elt F) → (⟨S131072, .i32⟩ : BufTy).Contents (Elt F) → (⟨S131072, .i32⟩ : BufTy).Contents (Elt F)),
    StableHlo.ternary main_v441 main_v443 main_v426 main_v444 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v439 main_v445 (broadcastInDim S131072x1 ![0] bcast_S131072_S131072x1_0 : (⟨S131072, .i32⟩ : BufTy).Contents (Elt F) → (⟨S131072x1, .i32⟩ : BufTy).Contents (Elt F)),
    StableHlo.unary main_v444 main_v446 (broadcastInDim S131072x1 ![0] bcast_S131072_S131072x1_0 : (⟨S131072, .i32⟩ : BufTy).Contents (Elt F) → (⟨S131072x1, .i32⟩ : BufTy).Contents (Elt F)),
    StableHlo.binary main_v445 main_v446 main_v447 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg5 main_v447 main_v448 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_160 (constantI S_ 32 0#32),
    StableHlo.unary main_c_160 main_v449 (broadcastInDim S131072 ![] bcast_S_S131072 : (⟨S_, .i32⟩ : BufTy).Contents (Elt F) → (⟨S131072, .i32⟩ : BufTy).Contents (Elt F)),
    StableHlo.binary main_v431 main_v449 main_v450 (cmpi .slt : (⟨S131072, .i32⟩ : BufTy).Contents (Elt F) → (⟨S131072, .i32⟩ : BufTy).Contents (Elt F) → (⟨S131072, .i1⟩ : BufTy).Contents (Elt F)),
    StableHlo.nullary main_c_161 (constantI S_ 32 64#32),
    StableHlo.unary main_c_161 main_v451 (broadcastInDim S131072 ![] bcast_S_S131072 : (⟨S_, .i32⟩ : BufTy).Contents (Elt F) → (⟨S131072, .i32⟩ : BufTy).Contents (Elt F)),
    StableHlo.binary main_v431 main_v451 main_v452 (addi : (⟨S131072, .i32⟩ : BufTy).Contents (Elt F) → (⟨S131072, .i32⟩ : BufTy).Contents (Elt F) → (⟨S131072, .i32⟩ : BufTy).Contents (Elt F)),
    StableHlo.ternary main_v450 main_v452 main_v431 main_v453 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_162 (constantI S_ 32 0#32),
    StableHlo.unary main_c_162 main_v454 (broadcastInDim S131072 ![] bcast_S_S131072 : (⟨S_, .i32⟩ : BufTy).Contents (Elt F) → (⟨S131072, .i32⟩ : BufTy).Contents (Elt F)),
    StableHlo.binary main_v429 main_v454 main_v455 (cmpi .slt : (⟨S131072, .i32⟩ : BufTy).Contents (Elt F) → (⟨S131072, .i32⟩ : BufTy).Contents (Elt F) → (⟨S131072, .i1⟩ : BufTy).Contents (Elt F)),
    StableHlo.nullary main_c_163 (constantI S_ 32 64#32),
    StableHlo.unary main_c_163 main_v456 (broadcastInDim S131072 ![] bcast_S_S131072 : (⟨S_, .i32⟩ : BufTy).Contents (Elt F) → (⟨S131072, .i32⟩ : BufTy).Contents (Elt F)),
    StableHlo.binary main_v429 main_v456 main_v457 (addi : (⟨S131072, .i32⟩ : BufTy).Contents (Elt F) → (⟨S131072, .i32⟩ : BufTy).Contents (Elt F) → (⟨S131072, .i32⟩ : BufTy).Contents (Elt F)),
    StableHlo.ternary main_v455 main_v457 main_v429 main_v458 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v453 main_v459 (broadcastInDim S131072x1 ![0] bcast_S131072_S131072x1_0 : (⟨S131072, .i32⟩ : BufTy).Contents (Elt F) → (⟨S131072x1, .i32⟩ : BufTy).Contents (Elt F)),
    StableHlo.unary main_v458 main_v460 (broadcastInDim S131072x1 ![0] bcast_S131072_S131072x1_0 : (⟨S131072, .i32⟩ : BufTy).Contents (Elt F) → (⟨S131072x1, .i32⟩ : BufTy).Contents (Elt F)),
    StableHlo.binary main_v459 main_v460 main_v461 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg5 main_v461 main_v462 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_164 (constantI S_ 32 0#32),
    StableHlo.unary main_c_164 main_v463 (broadcastInDim S131072 ![] bcast_S_S131072 : (⟨S_, .i32⟩ : BufTy).Contents (Elt F) → (⟨S131072, .i32⟩ : BufTy).Contents (Elt F)),
    StableHlo.binary main_v434 main_v463 main_v464 (cmpi .slt : (⟨S131072, .i32⟩ : BufTy).Contents (Elt F) → (⟨S131072, .i32⟩ : BufTy).Contents (Elt F) → (⟨S131072, .i1⟩ : BufTy).Contents (Elt F)),
    StableHlo.nullary main_c_165 (constantI S_ 32 64#32),
    StableHlo.unary main_c_165 main_v465 (broadcastInDim S131072 ![] bcast_S_S131072 : (⟨S_, .i32⟩ : BufTy).Contents (Elt F) → (⟨S131072, .i32⟩ : BufTy).Contents (Elt F)),
    StableHlo.binary main_v434 main_v465 main_v466 (addi : (⟨S131072, .i32⟩ : BufTy).Contents (Elt F) → (⟨S131072, .i32⟩ : BufTy).Contents (Elt F) → (⟨S131072, .i32⟩ : BufTy).Contents (Elt F)),
    StableHlo.ternary main_v464 main_v466 main_v434 main_v467 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_166 (constantI S_ 32 0#32),
    StableHlo.unary main_c_166 main_v468 (broadcastInDim S131072 ![] bcast_S_S131072 : (⟨S_, .i32⟩ : BufTy).Contents (Elt F) → (⟨S131072, .i32⟩ : BufTy).Contents (Elt F)),
    StableHlo.binary main_v426 main_v468 main_v469 (cmpi .slt : (⟨S131072, .i32⟩ : BufTy).Contents (Elt F) → (⟨S131072, .i32⟩ : BufTy).Contents (Elt F) → (⟨S131072, .i1⟩ : BufTy).Contents (Elt F)),
    StableHlo.nullary main_c_167 (constantI S_ 32 64#32),
    StableHlo.unary main_c_167 main_v470 (broadcastInDim S131072 ![] bcast_S_S131072 : (⟨S_, .i32⟩ : BufTy).Contents (Elt F) → (⟨S131072, .i32⟩ : BufTy).Contents (Elt F)),
    StableHlo.binary main_v426 main_v470 main_v471 (addi : (⟨S131072, .i32⟩ : BufTy).Contents (Elt F) → (⟨S131072, .i32⟩ : BufTy).Contents (Elt F) → (⟨S131072, .i32⟩ : BufTy).Contents (Elt F)),
    StableHlo.ternary main_v469 main_v471 main_v426 main_v472 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v467 main_v473 (broadcastInDim S131072x1 ![0] bcast_S131072_S131072x1_0 : (⟨S131072, .i32⟩ : BufTy).Contents (Elt F) → (⟨S131072x1, .i32⟩ : BufTy).Contents (Elt F)),
    StableHlo.unary main_v472 main_v474 (broadcastInDim S131072x1 ![0] bcast_S131072_S131072x1_0 : (⟨S131072, .i32⟩ : BufTy).Contents (Elt F) → (⟨S131072x1, .i32⟩ : BufTy).Contents (Elt F)),
    StableHlo.binary main_v473 main_v474 main_v475 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg5 main_v475 main_v476 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_c_168 (constantI S_ 32 0#32),
    StableHlo.unary main_c_168 main_v477 (broadcastInDim S131072 ![] bcast_S_S131072 : (⟨S_, .i32⟩ : BufTy).Contents (Elt F) → (⟨S131072, .i32⟩ : BufTy).Contents (Elt F)),
    StableHlo.binary main_v434 main_v477 main_v478 (cmpi .slt : (⟨S131072, .i32⟩ : BufTy).Contents (Elt F) → (⟨S131072, .i32⟩ : BufTy).Contents (Elt F) → (⟨S131072, .i1⟩ : BufTy).Contents (Elt F)),
    StableHlo.nullary main_c_169 (constantI S_ 32 64#32),
    StableHlo.unary main_c_169 main_v479 (broadcastInDim S131072 ![] bcast_S_S131072 : (⟨S_, .i32⟩ : BufTy).Contents (Elt F) → (⟨S131072, .i32⟩ : BufTy).Contents (Elt F)),
    StableHlo.binary main_v434 main_v479 main_v480 (addi : (⟨S131072, .i32⟩ : BufTy).Contents (Elt F) → (⟨S131072, .i32⟩ : BufTy).Contents (Elt F) → (⟨S131072, .i32⟩ : BufTy).Contents (Elt F)),
    StableHlo.ternary main_v478 main_v480 main_v434 main_v481 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_170 (constantI S_ 32 0#32),
    StableHlo.unary main_c_170 main_v482 (broadcastInDim S131072 ![] bcast_S_S131072 : (⟨S_, .i32⟩ : BufTy).Contents (Elt F) → (⟨S131072, .i32⟩ : BufTy).Contents (Elt F)),
    StableHlo.binary main_v429 main_v482 main_v483 (cmpi .slt : (⟨S131072, .i32⟩ : BufTy).Contents (Elt F) → (⟨S131072, .i32⟩ : BufTy).Contents (Elt F) → (⟨S131072, .i1⟩ : BufTy).Contents (Elt F)),
    StableHlo.nullary main_c_171 (constantI S_ 32 64#32),
    StableHlo.unary main_c_171 main_v484 (broadcastInDim S131072 ![] bcast_S_S131072 : (⟨S_, .i32⟩ : BufTy).Contents (Elt F) → (⟨S131072, .i32⟩ : BufTy).Contents (Elt F)),
    StableHlo.binary main_v429 main_v484 main_v485 (addi : (⟨S131072, .i32⟩ : BufTy).Contents (Elt F) → (⟨S131072, .i32⟩ : BufTy).Contents (Elt F) → (⟨S131072, .i32⟩ : BufTy).Contents (Elt F)) ]
theorem w10_eq (c : Dev nD) : main_part10 (F := F) c = seq w10 := rfl
theorem w10_sub : (w10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem w10_fresh : (w10 : List (HloOp τ sig (Elt F))).Forall fun op => op.fresh = ∅ := by
  simp only [List.Forall]; repeat' constructor
set_option maxHeartbeats 4000000 in
theorem w10_chain : Chain 708 (w10 : List (HloOp τ sig (Elt F))) :=
  Chain.cons (stepAt_nullary 708 _ _ rfl) <|
  Chain.cons (stepAt_unary 709 _ _ _ rfl (by decide)) <|
  Chain.cons (stepAt_binary 710 _ _ _ _ rfl (by decide) (by decide)) <|
  Chain.cons (stepAt_nullary 711 _ _ rfl) <|
  Chain.cons (stepAt_unary 712 _ _ _ rfl (by decide)) <|
  Chain.cons (stepAt_binary 713 _ _ _ _ rfl (by decide) (by decide)) <|
  Chain.cons (stepAt_ternary 714 _ _ _ _ _ rfl (by decide) (by decide) (by decide)) <|
  Chain.cons (stepAt_unary 715 _ _ _ rfl (by decide)) <|
  Chain.cons (stepAt_unary 716 _ _ _ rfl (by decide)) <|
  Chain.cons (stepAt_binary 717 _ _ _ _ rfl (by decide) (by decide)) <|
  Chain.cons (stepAt_binary 718 _ _ _ _ rfl (by decide) (by decide)) <|
  Chain.cons (stepAt_nullary 719 _ _ rfl) <|
  Chain.cons (stepAt_unary 720 _ _ _ rfl (by decide)) <|
  Chain.cons (stepAt_binary 721 _ _ _ _ rfl (by decide) (by decide)) <|
  Chain.cons (stepAt_nullary 722 _ _ rfl) <|
  Chain.cons (stepAt_unary 723 _ _ _ rfl (by decide)) <|
  Chain.cons (stepAt_binary 724 _ _ _ _ rfl (by decide) (by decide)) <|
  Chain.cons (stepAt_ternary 725 _ _ _ _ _ rfl (by decide) (by decide) (by decide)) <|
  Chain.cons (stepAt_nullary 726 _ _ rfl) <|
  Chain.cons (stepAt_unary 727 _ _ _ rfl (by decide)) <|
  Chain.cons (stepAt_binary 728 _ _ _ _ rfl (by decide) (by decide)) <|
  Chain.cons (stepAt_nullary 729 _ _ rfl) <|
  Chain.cons (stepAt_unary 730 _ _ _ rfl (by decide)) <|
  Chain.cons (stepAt_binary 731 _ _ _ _ rfl (by decide) (by decide)) <|
  Chain.cons (stepAt_ternary 732 _ _ _ _ _ rfl (by decide) (by decide) (by decide)) <|
  Chain.cons (stepAt_unary 733 _ _ _ rfl (by decide)) <|
  Chain.cons (stepAt_unary 734 _ _ _ rfl (by decide)) <|
  Chain.cons (stepAt_binary 735 _ _ _ _ rfl (by decide) (by decide)) <|
  Chain.cons (stepAt_binary 736 _ _ _ _ rfl (by decide) (by decide)) <|
  Chain.cons (stepAt_nullary 737 _ _ rfl) <|
  Chain.cons (stepAt_unary 738 _ _ _ rfl (by decide)) <|
  Chain.cons (stepAt_binary 739 _ _ _ _ rfl (by decide) (by decide)) <|
  Chain.cons (stepAt_nullary 740 _ _ rfl) <|
  Chain.cons (stepAt_unary 741 _ _ _ rfl (by decide)) <|
  Chain.cons (stepAt_binary 742 _ _ _ _ rfl (by decide) (by decide)) <|
  Chain.cons (stepAt_ternary 743 _ _ _ _ _ rfl (by decide) (by decide) (by decide)) <|
  Chain.cons (stepAt_nullary 744 _ _ rfl) <|
  Chain.cons (stepAt_unary 745 _ _ _ rfl (by decide)) <|
  Chain.cons (stepAt_binary 746 _ _ _ _ rfl (by decide) (by decide)) <|
  Chain.cons (stepAt_nullary 747 _ _ rfl) <|
  Chain.cons (stepAt_unary 748 _ _ _ rfl (by decide)) <|
  Chain.cons (stepAt_binary 749 _ _ _ _ rfl (by decide) (by decide)) <|
  Chain.cons (stepAt_ternary 750 _ _ _ _ _ rfl (by decide) (by decide) (by decide)) <|
  Chain.cons (stepAt_unary 751 _ _ _ rfl (by decide)) <|
  Chain.cons (stepAt_unary 752 _ _ _ rfl (by decide)) <|
  Chain.cons (stepAt_binary 753 _ _ _ _ rfl (by decide) (by decide)) <|
  Chain.cons (stepAt_binary 754 _ _ _ _ rfl (by decide) (by decide)) <|
  Chain.cons (stepAt_nullary 755 _ _ rfl) <|
  Chain.cons (stepAt_unary 756 _ _ _ rfl (by decide)) <|
  Chain.cons (stepAt_binary 757 _ _ _ _ rfl (by decide) (by decide)) <|
  Chain.cons (stepAt_nullary 758 _ _ rfl) <|
  Chain.cons (stepAt_unary 759 _ _ _ rfl (by decide)) <|
  Chain.cons (stepAt_binary 760 _ _ _ _ rfl (by decide) (by decide)) <|
  Chain.cons (stepAt_ternary 761 _ _ _ _ _ rfl (by decide) (by decide) (by decide)) <|
  Chain.cons (stepAt_nullary 762 _ _ rfl) <|
  Chain.cons (stepAt_unary 763 _ _ _ rfl (by decide)) <|
  Chain.cons (stepAt_binary 764 _ _ _ _ rfl (by decide) (by decide)) <|
  Chain.cons (stepAt_nullary 765 _ _ rfl) <|
  Chain.cons (stepAt_unary 766 _ _ _ rfl (by decide)) <|
  Chain.cons (stepAt_binary 767 _ _ _ _ rfl (by decide) (by decide)) <|
  Chain.nil
theorem w10_length : (w10 : List (HloOp τ sig (Elt F))).length = 60 := rfl

/-- Window 11 of @main: 60 operations, writing buffers 768 … 827. -/
abbrev w11 : List (HloOp τ sig (Elt F)) :=
  [ StableHlo.ternary main_v483 main_v485 main_v429 main_v486 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v481 main_v487 (broadcastInDim S131072x1 ![0] bcast_S131072_S131072x1_0 : (⟨S131072, .i32⟩ : BufTy).Contents (Elt F) → (⟨S131072x1, .i32⟩ : BufTy).Contents (Elt F)),
    StableHlo.unary main_v486 main_v488 (broadcastInDim S131072x1 ![0] bcast_S131072_S131072x1_0 : (⟨S131072, .i32⟩ : BufTy).Contents (Elt F) → (⟨S131072x1, .i32⟩ : BufTy).Contents (Elt F)),
    StableHlo.binary main_v487 main_v488 main_v489 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg5 main_v489 main_v490 ((fun x i => Host.gather gather_S32x64x64_S131072x2_S32x131072_0_12_n_n_12_1_3211 x i) : (⟨S32x64x64, .f32⟩ : BufTy).Contents (Elt F) → (⟨S131072x2, .i32⟩ : BufTy).Contents (Elt F) → (⟨S32x131072, .f32⟩ : BufTy).Contents (Elt F)),
    StableHlo.nullary main_cst_172 (constant S_ .f32 0x3F800000#32),
    StableHlo.unary main_cst_172 main_v491 (broadcastInDim S131072 ![] bcast_S_S131072 : (⟨S_, .f32⟩ : BufTy).Contents (Elt F) → (⟨S131072, .f32⟩ : BufTy).Contents (Elt F)),
    StableHlo.binary main_v491 main_v423 main_v492 (subf : (⟨S131072, .f32⟩ : BufTy).Contents (Elt F) → (⟨S131072, .f32⟩ : BufTy).Contents (Elt F) → (⟨S131072, .f32⟩ : BufTy).Contents (Elt F)),
    StableHlo.unary main_v492 main_v493 (broadcastInDim S1x131072 ![1] bcast_S131072_S1x131072_1 : (⟨S131072, .f32⟩ : BufTy).Contents (Elt F) → (⟨S1x131072, .f32⟩ : BufTy).Contents (Elt F)),
    StableHlo.unary main_v493 main_v494 (broadcastInDim S32x131072 ![0, 1] bcast_S1x131072_S32x131072_0_1 : (⟨S1x131072, .f32⟩ : BufTy).Contents (Elt F) → (⟨S32x131072, .f32⟩ : BufTy).Contents (Elt F)),
    StableHlo.binary main_v448 main_v494 main_v495 (mulf : (⟨S32x131072, .f32⟩ : BufTy).Contents (Elt F) → (⟨S32x131072, .f32⟩ : BufTy).Contents (Elt F) → (⟨S32x131072, .f32⟩ : BufTy).Contents (Elt F)),
    StableHlo.nullary main_cst_173 (constant S_ .f32 0x3F800000#32),
    StableHlo.unary main_cst_173 main_v496 (broadcastInDim S131072 ![] bcast_S_S131072 : (⟨S_, .f32⟩ : BufTy).Contents (Elt F) → (⟨S131072, .f32⟩ : BufTy).Contents (Elt F)),
    StableHlo.binary main_v496 main_v424 main_v497 (subf : (⟨S131072, .f32⟩ : BufTy).Contents (Elt F) → (⟨S131072, .f32⟩ : BufTy).Contents (Elt F) → (⟨S131072, .f32⟩ : BufTy).Contents (Elt F)),
    StableHlo.unary main_v497 main_v498 (broadcastInDim S1x131072 ![1] bcast_S131072_S1x131072_1 : (⟨S131072, .f32⟩ : BufTy).Contents (Elt F) → (⟨S1x131072, .f32⟩ : BufTy).Contents (Elt F)),
    StableHlo.unary main_v498 main_v499 (broadcastInDim S32x131072 ![0, 1] bcast_S1x131072_S32x131072_0_1 : (⟨S1x131072, .f32⟩ : BufTy).Contents (Elt F) → (⟨S32x131072, .f32⟩ : BufTy).Contents (Elt F)),
    StableHlo.binary main_v495 main_v499 main_v500 (mulf : (⟨S32x131072, .f32⟩ : BufTy).Contents (Elt F) → (⟨S32x131072, .f32⟩ : BufTy).Contents (Elt F) → (⟨S32x131072, .f32⟩ : BufTy).Contents (Elt F)),
    StableHlo.unary main_v423 main_v501 (broadcastInDim S1x131072 ![1] bcast_S131072_S1x131072_1 : (⟨S131072, .f32⟩ : BufTy).Contents (Elt F) → (⟨S1x131072, .f32⟩ : BufTy).Contents (Elt F)),
    StableHlo.unary main_v501 main_v502 (broadcastInDim S32x131072 ![0, 1] bcast_S1x131072_S32x131072_0_1 : (⟨S1x131072, .f32⟩ : BufTy).Contents (Elt F) → (⟨S32x131072, .f32⟩ : BufTy).Contents (Elt F)),
    StableHlo.binary main_v462 main_v502 main_v503 (mulf : (⟨S32x131072, .f32⟩ : BufTy).Contents (Elt F) → (⟨S32x131072, .f32⟩ : BufTy).Contents (Elt F) → (⟨S32x131072, .f32⟩ : BufTy).Contents (Elt F)),
    StableHlo.nullary main_cst_174 (constant S_ .f32 0x3F800000#32),
    StableHlo.unary main_cst_174 main_v504 (broadcastInDim S131072 ![] bcast_S_S131072 : (⟨S_, .f32⟩ : BufTy).Contents (Elt F) → (⟨S131072, .f32⟩ : BufTy).Contents (Elt F)),
    StableHlo.binary main_v504 main_v424 main_v505 (subf : (⟨S131072, .f32⟩ : BufTy).Contents (Elt F) → (⟨S131072, .f32⟩ : BufTy).Contents (Elt F) → (⟨S131072, .f32⟩ : BufTy).Contents (Elt F)),
    StableHlo.unary main_v505 main_v506 (broadcastInDim S1x131072 ![1] bcast_S131072_S1x131072_1 : (⟨S131072, .f32⟩ : BufTy).Contents (Elt F) → (⟨S1x131072, .f32⟩ : BufTy).Contents (Elt F)),
    StableHlo.unary main_v506 main_v507 (broadcastInDim S32x131072 ![0, 1] bcast_S1x131072_S32x131072_0_1 : (⟨S1x131072, .f32⟩ : BufTy).Contents (Elt F) → (⟨S32x131072, .f32⟩ : BufTy).Contents (Elt F)),
    StableHlo.binary main_v503 main_v507 main_v508 (mulf : (⟨S32x131072, .f32⟩ : BufTy).Contents (Elt F) → (⟨S32x131072, .f32⟩ : BufTy).Contents (Elt F) → (⟨S32x131072, .f32⟩ : BufTy).Contents (Elt F)),
    StableHlo.binary main_v500 main_v508 main_v509 (addf : (⟨S32x131072, .f32⟩ : BufTy).Contents (Elt F) → (⟨S32x131072, .f32⟩ : BufTy).Contents (Elt F) → (⟨S32x131072, .f32⟩ : BufTy).Contents (Elt F)),
    StableHlo.nullary main_cst_175 (constant S_ .f32 0x3F800000#32),
    StableHlo.unary main_cst_175 main_v510 (broadcastInDim S131072 ![] bcast_S_S131072 : (⟨S_, .f32⟩ : BufTy).Contents (Elt F) → (⟨S131072, .f32⟩ : BufTy).Contents (Elt F)),
    StableHlo.binary main_v510 main_v423 main_v511 (subf : (⟨S131072, .f32⟩ : BufTy).Contents (Elt F) → (⟨S131072, .f32⟩ : BufTy).Contents (Elt F) → (⟨S131072, .f32⟩ : BufTy).Contents (Elt F)),
    StableHlo.unary main_v511 main_v512 (broadcastInDim S1x131072 ![1] bcast_S131072_S1x131072_1 : (⟨S131072, .f32⟩ : BufTy).Contents (Elt F) → (⟨S1x131072, .f32⟩ : BufTy).Contents (Elt F)),
    StableHlo.unary main_v512 main_v513 (broadcastInDim S32x131072 ![0, 1] bcast_S1x131072_S32x131072_0_1 : (⟨S1x131072, .f32⟩ : BufTy).Contents (Elt F) → (⟨S32x131072, .f32⟩ : BufTy).Contents (Elt F)),
    StableHlo.binary main_v476 main_v513 main_v514 (mulf : (⟨S32x131072, .f32⟩ : BufTy).Contents (Elt F) → (⟨S32x131072, .f32⟩ : BufTy).Contents (Elt F) → (⟨S32x131072, .f32⟩ : BufTy).Contents (Elt F)),
    StableHlo.unary main_v424 main_v515 (broadcastInDim S1x131072 ![1] bcast_S131072_S1x131072_1 : (⟨S131072, .f32⟩ : BufTy).Contents (Elt F) → (⟨S1x131072, .f32⟩ : BufTy).Contents (Elt F)),
    StableHlo.unary main_v515 main_v516 (broadcastInDim S32x131072 ![0, 1] bcast_S1x131072_S32x131072_0_1 : (⟨S1x131072, .f32⟩ : BufTy).Contents (Elt F) → (⟨S32x131072, .f32⟩ : BufTy).Contents (Elt F)),
    StableHlo.binary main_v514 main_v516 main_v517 (mulf : (⟨S32x131072, .f32⟩ : BufTy).Contents (Elt F) → (⟨S32x131072, .f32⟩ : BufTy).Contents (Elt F) → (⟨S32x131072, .f32⟩ : BufTy).Contents (Elt F)),
    StableHlo.binary main_v509 main_v517 main_v518 (addf : (⟨S32x131072, .f32⟩ : BufTy).Contents (Elt F) → (⟨S32x131072, .f32⟩ : BufTy).Contents (Elt F) → (⟨S32x131072, .f32⟩ : BufTy).Contents (Elt F)),
    StableHlo.unary main_v423 main_v519 (broadcastInDim S1x131072 ![1] bcast_S131072_S1x131072_1 : (⟨S131072, .f32⟩ : BufTy).Contents (Elt F) → (⟨S1x131072, .f32⟩ : BufTy).Contents (Elt F)),
    StableHlo.unary main_v519 main_v520 (broadcastInDim S32x131072 ![0, 1] bcast_S1x131072_S32x131072_0_1 : (⟨S1x131072, .f32⟩ : BufTy).Contents (Elt F) → (⟨S32x131072, .f32⟩ : BufTy).Contents (Elt F)),
    StableHlo.binary main_v490 main_v520 main_v521 (mulf : (⟨S32x131072, .f32⟩ : BufTy).Contents (Elt F) → (⟨S32x131072, .f32⟩ : BufTy).Contents (Elt F) → (⟨S32x131072, .f32⟩ : BufTy).Contents (Elt F)),
    StableHlo.unary main_v424 main_v522 (broadcastInDim S1x131072 ![1] bcast_S131072_S1x131072_1 : (⟨S131072, .f32⟩ : BufTy).Contents (Elt F) → (⟨S1x131072, .f32⟩ : BufTy).Contents (Elt F)),
    StableHlo.unary main_v522 main_v523 (broadcastInDim S32x131072 ![0, 1] bcast_S1x131072_S32x131072_0_1 : (⟨S1x131072, .f32⟩ : BufTy).Contents (Elt F) → (⟨S32x131072, .f32⟩ : BufTy).Contents (Elt F)),
    StableHlo.binary main_v521 main_v523 main_v524 (mulf : (⟨S32x131072, .f32⟩ : BufTy).Contents (Elt F) → (⟨S32x131072, .f32⟩ : BufTy).Contents (Elt F) → (⟨S32x131072, .f32⟩ : BufTy).Contents (Elt F)),
    StableHlo.binary main_v518 main_v524 main_v525 (addf : (⟨S32x131072, .f32⟩ : BufTy).Contents (Elt F) → (⟨S32x131072, .f32⟩ : BufTy).Contents (Elt F) → (⟨S32x131072, .f32⟩ : BufTy).Contents (Elt F)),
    StableHlo.unary main_v525 main_v526 ((transpose S131072x32 [1, 0] · transposes_S32x131072_S131072x32_1_0) : (⟨S32x131072, .f32⟩ : BufTy).Contents (Elt F) → (⟨S131072x32, .f32⟩ : BufTy).Contents (Elt F)),
    StableHlo.binary main_v397 main_v526 main_v527 (mulf : (⟨S131072x32, .f32⟩ : BufTy).Contents (Elt F) → (⟨S131072x32, .f32⟩ : BufTy).Contents (Elt F) → (⟨S131072x32, .f32⟩ : BufTy).Contents (Elt F)),
    StableHlo.nullary main_c_176 (constantI S_ 32 0#32),
    StableHlo.unary main_c_176 main_v528 (broadcastInDim S2 ![] bcast_S_S2 : (⟨S_, .i32⟩ : BufTy).Contents (Elt F) → (⟨S2, .i32⟩ : BufTy).Contents (Elt F)),
    StableHlo.binary main_c_3 main_v528 main_v529 (cmpi .slt : (⟨S2, .i32⟩ : BufTy).Contents (Elt F) → (⟨S2, .i32⟩ : BufTy).Contents (Elt F) → (⟨S2, .i1⟩ : BufTy).Contents (Elt F)),
    StableHlo.nullary main_c_177 (constantI S_ 32 4#32),
    StableHlo.unary main_c_177 main_v530 (broadcastInDim S2 ![] bcast_S_S2 : (⟨S_, .i32⟩ : BufTy).Contents (Elt F) → (⟨S2, .i32⟩ : BufTy).Contents (Elt F)),
    StableHlo.binary main_c_3 main_v530 main_v531 (addi : (⟨S2, .i32⟩ : BufTy).Contents (Elt F) → (⟨S2, .i32⟩ : BufTy).Contents (Elt F) → (⟨S2, .i32⟩ : BufTy).Contents (Elt F)),
    StableHlo.ternary main_v529 main_v531 main_c_3 main_v532 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v532 main_v533 (broadcastInDim S2x1 ![0] bcast_S2_S2x1_0 : (⟨S2, .i32⟩ : BufTy).Contents (Elt F) → (⟨S2x1, .i32⟩ : BufTy).Contents (Elt F)),
    StableHlo.binary main_v8 main_v533 main_v534 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v534 main_v535 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v535 main_v536 rfl shapeCasts_S131072x1_S131072,
    StableHlo.nullary main_cst_178 (constant S_ .f32 0x3F800000#32),
    StableHlo.unary main_cst_178 main_v537 (broadcastInDim S131072 ![] bcast_S_S131072 : (⟨S_, .f32⟩ : BufTy).Contents (Elt F) → (⟨S131072, .f32⟩ : BufTy).Contents (Elt F)),
    StableHlo.binary main_v536 main_v537 main_v538 (addf : (⟨S131072, .f32⟩ : BufTy).Contents (Elt F) → (⟨S131072, .f32⟩ : BufTy).Contents (Elt F) → (⟨S131072, .f32⟩ : BufTy).Contents (Elt F)) ]
theorem w11_eq (c : Dev nD) : main_part11 (F := F) c = seq w11 := rfl
theorem w11_sub : (w11 : List (HloOp τ sig (Elt F))).Forall fun op => op.bufs ⊆ tcRefs τ sig :=
  ⟨ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub ..⟩
theorem w11_fresh : (w11 : List (HloOp τ sig (Elt F))).Forall fun op => op.fresh = ∅ := by
  simp only [List.Forall]; repeat' constructor
set_option maxHeartbeats 4000000 in
theorem w11_chain : Chain 768 (w11 : List (HloOp τ sig (Elt F))) :=
  Chain.cons (stepAt_ternary 768 _ _ _ _ _ rfl (by decide) (by decide) (by decide)) <|
  Chain.cons (stepAt_unary 769 _ _ _ rfl (by decide)) <|
  Chain.cons (stepAt_unary 770 _ _ _ rfl (by decide)) <|
  Chain.cons (stepAt_binary 771 _ _ _ _ rfl (by decide) (by decide)) <|
  Chain.cons (stepAt_binary 772 _ _ _ _ rfl (by decide) (by decide)) <|
  Chain.cons (stepAt_nullary 773 _ _ rfl) <|
  Chain.cons (stepAt_unary 774 _ _ _ rfl (by decide)) <|
  Chain.cons (stepAt_binary 775 _ _ _ _ rfl (by decide) (by decide)) <|
  Chain.cons (stepAt_unary 776 _ _ _ rfl (by decide)) <|
  Chain.cons (stepAt_unary 777 _ _ _ rfl (by decide)) <|
  Chain.cons (stepAt_binary 778 _ _ _ _ rfl (by decide) (by decide)) <|
  Chain.cons (stepAt_nullary 779 _ _ rfl) <|
  Chain.cons (stepAt_unary 780 _ _ _ rfl (by decide)) <|
  Chain.cons (stepAt_binary 781 _ _ _ _ rfl (by decide) (by decide)) <|
  Chain.cons (stepAt_unary 782 _ _ _ rfl (by decide)) <|
  Chain.cons (stepAt_unary 783 _ _ _ rfl (by decide)) <|
  Chain.cons (stepAt_binary 784 _ _ _ _ rfl (by decide) (by decide)) <|
  Chain.cons (stepAt_unary 785 _ _ _ rfl (by decide)) <|
  Chain.cons (stepAt_unary 786 _ _ _ rfl (by decide)) <|
  Chain.cons (stepAt_binary 787 _ _ _ _ rfl (by decide) (by decide)) <|
  Chain.cons (stepAt_nullary 788 _ _ rfl) <|
  Chain.cons (stepAt_unary 789 _ _ _ rfl (by decide)) <|
  Chain.cons (stepAt_binary 790 _ _ _ _ rfl (by decide) (by decide)) <|
  Chain.cons (stepAt_unary 791 _ _ _ rfl (by decide)) <|
  Chain.cons (stepAt_unary 792 _ _ _ rfl (by decide)) <|
  Chain.cons (stepAt_binary 793 _ _ _ _ rfl (by decide) (by decide)) <|
  Chain.cons (stepAt_binary 794 _ _ _ _ rfl (by decide) (by decide)) <|
  Chain.cons (stepAt_nullary 795 _ _ rfl) <|
  Chain.cons (stepAt_unary 796 _ _ _ rfl (by decide)) <|
  Chain.cons (stepAt_binary 797 _ _ _ _ rfl (by decide) (by decide)) <|
  Chain.cons (stepAt_unary 798 _ _ _ rfl (by decide)) <|
  Chain.cons (stepAt_unary 799 _ _ _ rfl (by decide)) <|
  Chain.cons (stepAt_binary 800 _ _ _ _ rfl (by decide) (by decide)) <|
  Chain.cons (stepAt_unary 801 _ _ _ rfl (by decide)) <|
  Chain.cons (stepAt_unary 802 _ _ _ rfl (by decide)) <|
  Chain.cons (stepAt_binary 803 _ _ _ _ rfl (by decide) (by decide)) <|
  Chain.cons (stepAt_binary 804 _ _ _ _ rfl (by decide) (by decide)) <|
  Chain.cons (stepAt_unary 805 _ _ _ rfl (by decide)) <|
  Chain.cons (stepAt_unary 806 _ _ _ rfl (by decide)) <|
  Chain.cons (stepAt_binary 807 _ _ _ _ rfl (by decide) (by decide)) <|
  Chain.cons (stepAt_unary 808 _ _ _ rfl (by decide)) <|
  Chain.cons (stepAt_unary 809 _ _ _ rfl (by decide)) <|
  Chain.cons (stepAt_binary 810 _ _ _ _ rfl (by decide) (by decide)) <|
  Chain.cons (stepAt_binary 811 _ _ _ _ rfl (by decide) (by decide)) <|
  Chain.cons (stepAt_unary 812 _ _ _ rfl (by decide)) <|
  Chain.cons (stepAt_binary 813 _ _ _ _ rfl (by decide) (by decide)) <|
  Chain.cons (stepAt_nullary 814 _ _ rfl) <|
  Chain.cons (stepAt_unary 815 _ _ _ rfl (by decide)) <|
  Chain.cons (stepAt_binary 816 _ _ _ _ rfl (by decide) (by decide)) <|
  Chain.cons (stepAt_nullary 817 _ _ rfl) <|
  Chain.cons (stepAt_unary 818 _ _ _ rfl (by decide)) <|
  Chain.cons (stepAt_binary 819 _ _ _ _ rfl (by decide) (by decide)) <|
  Chain.cons (stepAt_ternary 820 _ _ _ _ _ rfl (by decide) (by decide) (by decide)) <|
  Chain.cons (stepAt_unary 821 _ _ _ rfl (by decide)) <|
  Chain.cons (stepAt_binary 822 _ _ _ _ rfl (by decide) (by decide)) <|
  Chain.cons (stepAt_unary 823 _ _ _ rfl (by decide)) <|
  Chain.cons (stepAt_reshape 824 _ _ _ _ rfl (by decide)) <|
  Chain.cons (stepAt_nullary 825 _ _ rfl) <|
  Chain.cons (stepAt_unary 826 _ _ _ rfl (by decide)) <|
  Chain.cons (stepAt_binary 827 _ _ _ _ rfl (by decide) (by decide)) <|
  Chain.nil
theorem w11_length : (w11 : List (HloOp τ sig (Elt F))).length = 60 := rfl

/-- Window 12 of @main: 80 operations, writing buffers 828 … 907. -/
abbrev w12 : List (HloOp τ sig (Elt F)) :=
  [ StableHlo.nullary main_cst_179 (constant S_ .f32 0x3F000000#32),
    StableHlo.unary main_cst_179 main_v539 (broadcastInDim S131072 ![] bcast_S_S131072 : (⟨S_, .f32⟩ : BufTy).Contents (Elt F) → (⟨S131072, .f32⟩ : BufTy).Contents (Elt F)),
    StableHlo.binary main_v538 main_v539 main_v540 (mulf : (⟨S131072, .f32⟩ : BufTy).Contents (Elt F) → (⟨S131072, .f32⟩ : BufTy).Contents (Elt F) → (⟨S131072, .f32⟩ : BufTy).Contents (Elt F)),
    StableHlo.nullary main_cst_180 (constant S_ .f32 0x427C0000#32),
    StableHlo.unary main_cst_180 main_v541 (broadcastInDim S131072 ![] bcast_S_S131072 : (⟨S_, .f32⟩ : BufTy).Contents (Elt F) → (⟨S131072, .f32⟩ : BufTy).Contents (Elt F)),
    StableHlo.binary main_v540 main_v541 main_v542 (mulf : (⟨S131072, .f32⟩ : BufTy).Contents (Elt F) → (⟨S131072, .f32⟩ : BufTy).Contents (Elt F) → (⟨S131072, .f32⟩ : BufTy).Contents (Elt F)),
    StableHlo.unary main_v534 main_v543 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v543 main_v544 rfl shapeCasts_S131072x1_S131072,
    StableHlo.nullary main_cst_181 (constant S_ .f32 0x3F800000#32),
    StableHlo.unary main_cst_181 main_v545 (broadcastInDim S131072 ![] bcast_S_S131072 : (⟨S_, .f32⟩ : BufTy).Contents (Elt F) → (⟨S131072, .f32⟩ : BufTy).Contents (Elt F)),
    StableHlo.binary main_v544 main_v545 main_v546 (addf : (⟨S131072, .f32⟩ : BufTy).Contents (Elt F) → (⟨S131072, .f32⟩ : BufTy).Contents (Elt F) → (⟨S131072, .f32⟩ : BufTy).Contents (Elt F)),
    StableHlo.nullary main_cst_182 (constant S_ .f32 0x3F000000#32),
    StableHlo.unary main_cst_182 main_v547 (broadcastInDim S131072 ![] bcast_S_S131072 : (⟨S_, .f32⟩ : BufTy).Contents (Elt F) → (⟨S131072, .f32⟩ : BufTy).Contents (Elt F)),
    StableHlo.binary main_v546 main_v547 main_v548 (mulf : (⟨S131072, .f32⟩ : BufTy).Contents (Elt F) → (⟨S131072, .f32⟩ : BufTy).Contents (Elt F) → (⟨S131072, .f32⟩ : BufTy).Contents (Elt F)),
    StableHlo.nullary main_cst_183 (constant S_ .f32 0x43150000#32),
    StableHlo.unary main_cst_183 main_v549 (broadcastInDim S131072 ![] bcast_S_S131072 : (⟨S_, .f32⟩ : BufTy).Contents (Elt F) → (⟨S131072, .f32⟩ : BufTy).Contents (Elt F)),
    StableHlo.binary main_v548 main_v549 main_v550 (mulf : (⟨S131072, .f32⟩ : BufTy).Contents (Elt F) → (⟨S131072, .f32⟩ : BufTy).Contents (Elt F) → (⟨S131072, .f32⟩ : BufTy).Contents (Elt F)),
    StableHlo.unary main_v542 main_v551 (Host.floor : (⟨S131072, .f32⟩ : BufTy).Contents (Elt F) → (⟨S131072, .f32⟩ : BufTy).Contents (Elt F)),
    StableHlo.unary main_v550 main_v552 (Host.floor : (⟨S131072, .f32⟩ : BufTy).Contents (Elt F) → (⟨S131072, .f32⟩ : BufTy).Contents (Elt F)),
    StableHlo.binary main_v542 main_v551 main_v553 (subf : (⟨S131072, .f32⟩ : BufTy).Contents (Elt F) → (⟨S131072, .f32⟩ : BufTy).Contents (Elt F) → (⟨S131072, .f32⟩ : BufTy).Contents (Elt F)),
    StableHlo.binary main_v550 main_v552 main_v554 (subf : (⟨S131072, .f32⟩ : BufTy).Contents (Elt F) → (⟨S131072, .f32⟩ : BufTy).Contents (Elt F) → (⟨S131072, .f32⟩ : BufTy).Contents (Elt F)),
    StableHlo.unary main_v551 main_v555 (fptosi 32 : (⟨S131072, .f32⟩ : BufTy).Contents (Elt F) → (⟨S131072, .i32⟩ : BufTy).Contents (Elt F)),
    StableHlo.nullary main_c_184 (constantI S_ 32 0#32),
    StableHlo.nullary main_c_185 (constantI S_ 32 63#32),
    StableHlo.TRef.unary (.of main_c_184) main_call16.v0 id,
    StableHlo.TRef.unary main_call16.v0 main_call16.v1 (broadcastInDim S131072 ![] bcast_S_S131072),
    StableHlo.TRef.binary main_call16.v1 (.of main_v555) main_call16.v2 maxsi,
    StableHlo.TRef.unary (.of main_c_185) main_call16.v3 id,
    StableHlo.TRef.unary main_call16.v3 main_call16.v4 (broadcastInDim S131072 ![] bcast_S_S131072),
    StableHlo.TRef.binary main_call16.v4 main_call16.v2 main_call16.v5 minsi,
    StableHlo.nullary main_c_186 (constantI S_ 32 1#32),
    StableHlo.unary main_c_186 main_v557 (broadcastInDim S131072 ![] bcast_S_S131072 : (⟨S_, .i32⟩ : BufTy).Contents (Elt F) → (⟨S131072, .i32⟩ : BufTy).Contents (Elt F)),
    StableHlo.binary main_v556 main_v557 main_v558 (addi : (⟨S131072, .i32⟩ : BufTy).Contents (Elt F) → (⟨S131072, .i32⟩ : BufTy).Contents (Elt F) → (⟨S131072, .i32⟩ : BufTy).Contents (Elt F)),
    StableHlo.nullary main_c_187 (constantI S_ 32 0#32),
    StableHlo.nullary main_c_188 (constantI S_ 32 63#32),
    StableHlo.TRef.unary (.of main_c_187) main_call17.v0 id,
    StableHlo.TRef.unary main_call17.v0 main_call17.v1 (broadcastInDim S131072 ![] bcast_S_S131072),
    StableHlo.TRef.binary main_call17.v1 (.of main_v558) main_call17.v2 maxsi,
    StableHlo.TRef.unary (.of main_c_188) main_call17.v3 id,
    StableHlo.TRef.unary main_call17.v3 main_call17.v4 (broadcastInDim S131072 ![] bcast_S_S131072),
    StableHlo.TRef.binary main_call17.v4 main_call17.v2 main_call17.v5 minsi,
    StableHlo.unary main_v552 main_v560 (fptosi 32 : (⟨S131072, .f32⟩ : BufTy).Contents (Elt F) → (⟨S131072, .i32⟩ : BufTy).Contents (Elt F)),
    StableHlo.nullary main_c_189 (constantI S_ 32 0#32),
    StableHlo.nullary main_c_190 (constantI S_ 32 149#32),
    StableHlo.TRef.unary (.of main_c_189) main_call18.v0 id,
    StableHlo.TRef.unary main_call18.v0 main_call18.v1 (broadcastInDim S131072 ![] bcast_S_S131072),
    StableHlo.TRef.binary main_call18.v1 (.of main_v560) main_call18.v2 maxsi,
    StableHlo.TRef.unary (.of main_c_190) main_call18.v3 id,
    StableHlo.TRef.unary main_call18.v3 main_call18.v4 (broadcastInDim S131072 ![] bcast_S_S131072),
    StableHlo.TRef.binary main_call18.v4 main_call18.v2 main_call18.v5 minsi,
    StableHlo.nullary main_c_191 (constantI S_ 32 1#32),
    StableHlo.unary main_c_191 main_v562 (broadcastInDim S131072 ![] bcast_S_S131072 : (⟨S_, .i32⟩ : BufTy).Contents (Elt F) → (⟨S131072, .i32⟩ : BufTy).Contents (Elt F)),
    StableHlo.binary main_v561 main_v562 main_v563 (addi : (⟨S131072, .i32⟩ : BufTy).Contents (Elt F) → (⟨S131072, .i32⟩ : BufTy).Contents (Elt F) → (⟨S131072, .i32⟩ : BufTy).Contents (Elt F)),
    StableHlo.nullary main_c_192 (constantI S_ 32 0#32),
    StableHlo.nullary main_c_193 (constantI S_ 32 149#32),
    StableHlo.TRef.unary (.of main_c_192) main_call19.v0 id,
    StableHlo.TRef.unary main_call19.v0 main_call19.v1 (broadcastInDim S131072 ![] bcast_S_S131072),
    StableHlo.TRef.binary main_call19.v1 (.of main_v563) main_call19.v2 maxsi,
    StableHlo.TRef.unary (.of main_c_193) main_call19.v3 id,
    StableHlo.TRef.unary main_call19.v3 main_call19.v4 (broadcastInDim S131072 ![] bcast_S_S131072),
    StableHlo.TRef.binary main_call19.v4 main_call19.v2 main_call19.v5 minsi,
    StableHlo.nullary main_c_194 (constantI S_ 32 0#32),
    StableHlo.unary main_c_194 main_v565 (broadcastInDim S131072 ![] bcast_S_S131072 : (⟨S_, .i32⟩ : BufTy).Contents (Elt F) → (⟨S131072, .i32⟩ : BufTy).Contents (Elt F)),
    StableHlo.binary main_v561 main_v565 main_v566 (cmpi .slt : (⟨S131072, .i32⟩ : BufTy).Contents (Elt F) → (⟨S131072, .i32⟩ : BufTy).Contents (Elt F) → (⟨S131072, .i1⟩ : BufTy).Contents (Elt F)),
    StableHlo.nullary main_c_195 (constantI S_ 32 150#32),
    StableHlo.unary main_c_195 main_v567 (broadcastInDim S131072 ![] bcast_S_S131072 : (⟨S_, .i32⟩ : BufTy).Contents (Elt F) → (⟨S131072, .i32⟩ : BufTy).Contents (Elt F)),
    StableHlo.binary main_v561 main_v567 main_v568 (addi : (⟨S131072, .i32⟩ : BufTy).Contents (Elt F) → (⟨S131072, .i32⟩ : BufTy).Contents (Elt F) → (⟨S131072, .i32⟩ : BufTy).Contents (Elt F)),
    StableHlo.ternary main_v566 main_v568 main_v561 main_v569 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_196 (constantI S_ 32 0#32),
    StableHlo.unary main_c_196 main_v570 (broadcastInDim S131072 ![] bcast_S_S131072 : (⟨S_, .i32⟩ : BufTy).Contents (Elt F) → (⟨S131072, .i32⟩ : BufTy).Contents (Elt F)),
    StableHlo.binary main_v556 main_v570 main_v571 (cmpi .slt : (⟨S131072, .i32⟩ : BufTy).Contents (Elt F) → (⟨S131072, .i32⟩ : BufTy).Contents (Elt F) → (⟨S131072, .i1⟩ : BufTy).Contents (Elt F)),
    StableHlo.nullary main_c_197 (constantI S_ 32 64#32),
    StableHlo.unary main_c_197 main_v572 (broadcastInDim S131072 ![] bcast_S_S131072 : (⟨S_, .i32⟩ : BufTy).Contents (Elt F) → (⟨S131072, .i32⟩ : BufTy).Contents (Elt F)),
    StableHlo.binary main_v556 main_v572 main_v573 (addi : (⟨S131072, .i32⟩ : BufTy).Contents (Elt F) → (⟨S131072, .i32⟩ : BufTy).Contents (Elt F) → (⟨S131072, .i32⟩ : BufTy).Contents (Elt F)),
    StableHlo.ternary main_v571 main_v573 main_v556 main_v574 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v569 main_v575 (broadcastInDim S131072x1 ![0] bcast_S131072_S131072x1_0 : (⟨S131072, .i32⟩ : BufTy).Contents (Elt F) → (⟨S131072x1, .i32⟩ : BufTy).Contents (Elt F)),
    StableHlo.unary main_v574 main_v576 (broadcastInDim S131072x1 ![0] bcast_S131072_S131072x1_0 : (⟨S131072, .i32⟩ : BufTy).Contents (Elt F) → (⟨S131072x1, .i32⟩ : BufTy).Contents (Elt F)),
    StableHlo.binary main_v575 main_v576 main_v577 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg6 main_v577 main_v578 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_198 (constantI S_ 32 0#32) ]
theorem w12_eq (c : Dev nD) : main_part12 (F := F) c = seq w12 := rfl
theorem w12_sub : (w12 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub ..⟩
theorem w12_fresh : (w12 : List (HloOp τ sig (Elt F))).Forall fun op => op.fresh = ∅ := by
  simp only [List.Forall]; repeat' constructor
set_option maxHeartbeats 4000000 in
theorem w12_chain : Chain 828 (w12 : List (HloOp τ sig (Elt F))) :=
  Chain.cons (stepAt_nullary 828 _ _ rfl) <|
  Chain.cons (stepAt_unary 829 _ _ _ rfl (by decide)) <|
  Chain.cons (stepAt_binary 830 _ _ _ _ rfl (by decide) (by decide)) <|
  Chain.cons (stepAt_nullary 831 _ _ rfl) <|
  Chain.cons (stepAt_unary 832 _ _ _ rfl (by decide)) <|
  Chain.cons (stepAt_binary 833 _ _ _ _ rfl (by decide) (by decide)) <|
  Chain.cons (stepAt_unary 834 _ _ _ rfl (by decide)) <|
  Chain.cons (stepAt_reshape 835 _ _ _ _ rfl (by decide)) <|
  Chain.cons (stepAt_nullary 836 _ _ rfl) <|
  Chain.cons (stepAt_unary 837 _ _ _ rfl (by decide)) <|
  Chain.cons (stepAt_binary 838 _ _ _ _ rfl (by decide) (by decide)) <|
  Chain.cons (stepAt_nullary 839 _ _ rfl) <|
  Chain.cons (stepAt_unary 840 _ _ _ rfl (by decide)) <|
  Chain.cons (stepAt_binary 841 _ _ _ _ rfl (by decide) (by decide)) <|
  Chain.cons (stepAt_nullary 842 _ _ rfl) <|
  Chain.cons (stepAt_unary 843 _ _ _ rfl (by decide)) <|
  Chain.cons (stepAt_binary 844 _ _ _ _ rfl (by decide) (by decide)) <|
  Chain.cons (stepAt_unary 845 _ _ _ rfl (by decide)) <|
  Chain.cons (stepAt_unary 846 _ _ _ rfl (by decide)) <|
  Chain.cons (stepAt_binary 847 _ _ _ _ rfl (by decide) (by decide)) <|
  Chain.cons (stepAt_binary 848 _ _ _ _ rfl (by decide) (by decide)) <|
  Chain.cons (stepAt_unary 849 _ _ _ rfl (by decide)) <|
  Chain.cons (stepAt_nullary 850 _ _ rfl) <|
  Chain.cons (stepAt_nullary 851 _ _ rfl) <|
  Chain.cons (stepAt_unary 852 _ _ _ rfl (by decide)) <|
  Chain.cons (stepAt_unary 853 _ _ _ rfl (by decide)) <|
  Chain.cons (stepAt_binary 854 _ _ _ _ rfl (by decide) (by decide)) <|
  Chain.cons (stepAt_unary 855 _ _ _ rfl (by decide)) <|
  Chain.cons (stepAt_unary 856 _ _ _ rfl (by decide)) <|
  Chain.cons (stepAt_binary 857 _ _ _ _ rfl (by decide) (by decide)) <|
  Chain.cons (stepAt_nullary 858 _ _ rfl) <|
  Chain.cons (stepAt_unary 859 _ _ _ rfl (by decide)) <|
  Chain.cons (stepAt_binary 860 _ _ _ _ rfl (by decide) (by decide)) <|
  Chain.cons (stepAt_nullary 861 _ _ rfl) <|
  Chain.cons (stepAt_nullary 862 _ _ rfl) <|
  Chain.cons (stepAt_unary 863 _ _ _ rfl (by decide)) <|
  Chain.cons (stepAt_unary 864 _ _ _ rfl (by decide)) <|
  Chain.cons (stepAt_binary 865 _ _ _ _ rfl (by decide) (by decide)) <|
  Chain.cons (stepAt_unary 866 _ _ _ rfl (by decide)) <|
  Chain.cons (stepAt_unary 867 _ _ _ rfl (by decide)) <|
  Chain.cons (stepAt_binary 868 _ _ _ _ rfl (by decide) (by decide)) <|
  Chain.cons (stepAt_unary 869 _ _ _ rfl (by decide)) <|
  Chain.cons (stepAt_nullary 870 _ _ rfl) <|
  Chain.cons (stepAt_nullary 871 _ _ rfl) <|
  Chain.cons (stepAt_unary 872 _ _ _ rfl (by decide)) <|
  Chain.cons (stepAt_unary 873 _ _ _ rfl (by decide)) <|
  Chain.cons (stepAt_binary 874 _ _ _ _ rfl (by decide) (by decide)) <|
  Chain.cons (stepAt_unary 875 _ _ _ rfl (by decide)) <|
  Chain.cons (stepAt_unary 876 _ _ _ rfl (by decide)) <|
  Chain.cons (stepAt_binary 877 _ _ _ _ rfl (by decide) (by decide)) <|
  Chain.cons (stepAt_nullary 878 _ _ rfl) <|
  Chain.cons (stepAt_unary 879 _ _ _ rfl (by decide)) <|
  Chain.cons (stepAt_binary 880 _ _ _ _ rfl (by decide) (by decide)) <|
  Chain.cons (stepAt_nullary 881 _ _ rfl) <|
  Chain.cons (stepAt_nullary 882 _ _ rfl) <|
  Chain.cons (stepAt_unary 883 _ _ _ rfl (by decide)) <|
  Chain.cons (stepAt_unary 884 _ _ _ rfl (by decide)) <|
  Chain.cons (stepAt_binary 885 _ _ _ _ rfl (by decide) (by decide)) <|
  Chain.cons (stepAt_unary 886 _ _ _ rfl (by decide)) <|
  Chain.cons (stepAt_unary 887 _ _ _ rfl (by decide)) <|
  Chain.cons (stepAt_binary 888 _ _ _ _ rfl (by decide) (by decide)) <|
  Chain.cons (stepAt_nullary 889 _ _ rfl) <|
  Chain.cons (stepAt_unary 890 _ _ _ rfl (by decide)) <|
  Chain.cons (stepAt_binary 891 _ _ _ _ rfl (by decide) (by decide)) <|
  Chain.cons (stepAt_nullary 892 _ _ rfl) <|
  Chain.cons (stepAt_unary 893 _ _ _ rfl (by decide)) <|
  Chain.cons (stepAt_binary 894 _ _ _ _ rfl (by decide) (by decide)) <|
  Chain.cons (stepAt_ternary 895 _ _ _ _ _ rfl (by decide) (by decide) (by decide)) <|
  Chain.cons (stepAt_nullary 896 _ _ rfl) <|
  Chain.cons (stepAt_unary 897 _ _ _ rfl (by decide)) <|
  Chain.cons (stepAt_binary 898 _ _ _ _ rfl (by decide) (by decide)) <|
  Chain.cons (stepAt_nullary 899 _ _ rfl) <|
  Chain.cons (stepAt_unary 900 _ _ _ rfl (by decide)) <|
  Chain.cons (stepAt_binary 901 _ _ _ _ rfl (by decide) (by decide)) <|
  Chain.cons (stepAt_ternary 902 _ _ _ _ _ rfl (by decide) (by decide) (by decide)) <|
  Chain.cons (stepAt_unary 903 _ _ _ rfl (by decide)) <|
  Chain.cons (stepAt_unary 904 _ _ _ rfl (by decide)) <|
  Chain.cons (stepAt_binary 905 _ _ _ _ rfl (by decide) (by decide)) <|
  Chain.cons (stepAt_binary 906 _ _ _ _ rfl (by decide) (by decide)) <|
  Chain.cons (stepAt_nullary 907 _ _ rfl) <|
  Chain.nil
theorem w12_length : (w12 : List (HloOp τ sig (Elt F))).length = 80 := rfl

/-- Window 13 of @main: 60 operations, writing buffers 908 … 967. -/
abbrev w13 : List (HloOp τ sig (Elt F)) :=
  [ StableHlo.unary main_c_198 main_v579 (broadcastInDim S131072 ![] bcast_S_S131072 : (⟨S_, .i32⟩ : BufTy).Contents (Elt F) → (⟨S131072, .i32⟩ : BufTy).Contents (Elt F)),
    StableHlo.binary main_v561 main_v579 main_v580 (cmpi .slt : (⟨S131072, .i32⟩ : BufTy).Contents (Elt F) → (⟨S131072, .i32⟩ : BufTy).Contents (Elt F) → (⟨S131072, .i1⟩ : BufTy).Contents (Elt F)),
    StableHlo.nullary main_c_199 (constantI S_ 32 150#32),
    StableHlo.unary main_c_199 main_v581 (broadcastInDim S131072 ![] bcast_S_S131072 : (⟨S_, .i32⟩ : BufTy).Contents (Elt F) → (⟨S131072, .i32⟩ : BufTy).Contents (Elt F)),
    StableHlo.binary main_v561 main_v581 main_v582 (addi : (⟨S131072, .i32⟩ : BufTy).Contents (Elt F) → (⟨S131072, .i32⟩ : BufTy).Contents (Elt F) → (⟨S131072, .i32⟩ : BufTy).Contents (Elt F)),
    StableHlo.ternary main_v580 main_v582 main_v561 main_v583 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_200 (constantI S_ 32 0#32),
    StableHlo.unary main_c_200 main_v584 (broadcastInDim S131072 ![] bcast_S_S131072 : (⟨S_, .i32⟩ : BufTy).Contents (Elt F) → (⟨S131072, .i32⟩ : BufTy).Contents (Elt F)),
    StableHlo.binary main_v559 main_v584 main_v585 (cmpi .slt : (⟨S131072, .i32⟩ : BufTy).Contents (Elt F) → (⟨S131072, .i32⟩ : BufTy).Contents (Elt F) → (⟨S131072, .i1⟩ : BufTy).Contents (Elt F)),
    StableHlo.nullary main_c_201 (constantI S_ 32 64#32),
    StableHlo.unary main_c_201 main_v586 (broadcastInDim S131072 ![] bcast_S_S131072 : (⟨S_, .i32⟩ : BufTy).Contents (Elt F) → (⟨S131072, .i32⟩ : BufTy).Contents (Elt F)),
    StableHlo.binary main_v559 main_v586 main_v587 (addi : (⟨S131072, .i32⟩ : BufTy).Contents (Elt F) → (⟨S131072, .i32⟩ : BufTy).Contents (Elt F) → (⟨S131072, .i32⟩ : BufTy).Contents (Elt F)),
    StableHlo.ternary main_v585 main_v587 main_v559 main_v588 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v583 main_v589 (broadcastInDim S131072x1 ![0] bcast_S131072_S131072x1_0 : (⟨S131072, .i32⟩ : BufTy).Contents (Elt F) → (⟨S131072x1, .i32⟩ : BufTy).Contents (Elt F)),
    StableHlo.unary main_v588 main_v590 (broadcastInDim S131072x1 ![0] bcast_S131072_S131072x1_0 : (⟨S131072, .i32⟩ : BufTy).Contents (Elt F) → (⟨S131072x1, .i32⟩ : BufTy).Contents (Elt F)),
    StableHlo.binary main_v589 main_v590 main_v591 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg6 main_v591 main_v592 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_202 (constantI S_ 32 0#32),
    StableHlo.unary main_c_202 main_v593 (broadcastInDim S131072 ![] bcast_S_S131072 : (⟨S_, .i32⟩ : BufTy).Contents (Elt F) → (⟨S131072, .i32⟩ : BufTy).Contents (Elt F)),
    StableHlo.binary main_v564 main_v593 main_v594 (cmpi .slt : (⟨S131072, .i32⟩ : BufTy).Contents (Elt F) → (⟨S131072, .i32⟩ : BufTy).Contents (Elt F) → (⟨S131072, .i1⟩ : BufTy).Contents (Elt F)),
    StableHlo.nullary main_c_203 (constantI S_ 32 150#32),
    StableHlo.unary main_c_203 main_v595 (broadcastInDim S131072 ![] bcast_S_S131072 : (⟨S_, .i32⟩ : BufTy).Contents (Elt F) → (⟨S131072, .i32⟩ : BufTy).Contents (Elt F)),
    StableHlo.binary main_v564 main_v595 main_v596 (addi : (⟨S131072, .i32⟩ : BufTy).Contents (Elt F) → (⟨S131072, .i32⟩ : BufTy).Contents (Elt F) → (⟨S131072, .i32⟩ : BufTy).Contents (Elt F)),
    StableHlo.ternary main_v594 main_v596 main_v564 main_v597 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_204 (constantI S_ 32 0#32),
    StableHlo.unary main_c_204 main_v598 (broadcastInDim S131072 ![] bcast_S_S131072 : (⟨S_, .i32⟩ : BufTy).Contents (Elt F) → (⟨S131072, .i32⟩ : BufTy).Contents (Elt F)),
    StableHlo.binary main_v556 main_v598 main_v599 (cmpi .slt : (⟨S131072, .i32⟩ : BufTy).Contents (Elt F) → (⟨S131072, .i32⟩ : BufTy).Contents (Elt F) → (⟨S131072, .i1⟩ : BufTy).Contents (Elt F)),
    StableHlo.nullary main_c_205 (constantI S_ 32 64#32),
    StableHlo.unary main_c_205 main_v600 (broadcastInDim S131072 ![] bcast_S_S131072 : (⟨S_, .i32⟩ : BufTy).Contents (Elt F) → (⟨S131072, .i32⟩ : BufTy).Contents (Elt F)),
    StableHlo.binary main_v556 main_v600 main_v601 (addi : (⟨S131072, .i32⟩ : BufTy).Contents (Elt F) → (⟨S131072, .i32⟩ : BufTy).Contents (Elt F) → (⟨S131072, .i32⟩ : BufTy).Contents (Elt F)),
    StableHlo.ternary main_v599 main_v601 main_v556 main_v602 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v597 main_v603 (broadcastInDim S131072x1 ![0] bcast_S131072_S131072x1_0 : (⟨S131072, .i32⟩ : BufTy).Contents (Elt F) → (⟨S131072x1, .i32⟩ : BufTy).Contents (Elt F)),
    StableHlo.unary main_v602 main_v604 (broadcastInDim S131072x1 ![0] bcast_S131072_S131072x1_0 : (⟨S131072, .i32⟩ : BufTy).Contents (Elt F) → (⟨S131072x1, .i32⟩ : BufTy).Contents (Elt F)),
    StableHlo.binary main_v603 main_v604 main_v605 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg6 main_v605 main_v606 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_206 (constantI S_ 32 0#32),
    StableHlo.unary main_c_206 main_v607 (broadcastInDim S131072 ![] bcast_S_S131072 : (⟨S_, .i32⟩ : BufTy).Contents (Elt F) → (⟨S131072, .i32⟩ : BufTy).Contents (Elt F)),
    StableHlo.binary main_v564 main_v607 main_v608 (cmpi .slt : (⟨S131072, .i32⟩ : BufTy).Contents (Elt F) → (⟨S131072, .i32⟩ : BufTy).Contents (Elt F) → (⟨S131072, .i1⟩ : BufTy).Contents (Elt F)),
    StableHlo.nullary main_c_207 (constantI S_ 32 150#32),
    StableHlo.unary main_c_207 main_v609 (broadcastInDim S131072 ![] bcast_S_S131072 : (⟨S_, .i32⟩ : BufTy).Contents (Elt F) → (⟨S131072, .i32⟩ : BufTy).Contents (Elt F)),
    StableHlo.binary main_v564 main_v609 main_v610 (addi : (⟨S131072, .i32⟩ : BufTy).Contents (Elt F) → (⟨S131072, .i32⟩ : BufTy).Contents (Elt F) → (⟨S131072, .i32⟩ : BufTy).Contents (Elt F)),
    StableHlo.ternary main_v608 main_v610 main_v564 main_v611 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_208 (constantI S_ 32 0#32),
    StableHlo.unary main_c_208 main_v612 (broadcastInDim S131072 ![] bcast_S_S131072 : (⟨S_, .i32⟩ : BufTy).Contents (Elt F) → (⟨S131072, .i32⟩ : BufTy).Contents (Elt F)),
    StableHlo.binary main_v559 main_v612 main_v613 (cmpi .slt : (⟨S131072, .i32⟩ : BufTy).Contents (Elt F) → (⟨S131072, .i32⟩ : BufTy).Contents (Elt F) → (⟨S131072, .i1⟩ : BufTy).Contents (Elt F)),
    StableHlo.nullary main_c_209 (constantI S_ 32 64#32),
    StableHlo.unary main_c_209 main_v614 (broadcastInDim S131072 ![] bcast_S_S131072 : (⟨S_, .i32⟩ : BufTy).Contents (Elt F) → (⟨S131072, .i32⟩ : BufTy).Contents (Elt F)),
    StableHlo.binary main_v559 main_v614 main_v615 (addi : (⟨S131072, .i32⟩ : BufTy).Contents (Elt F) → (⟨S131072, .i32⟩ : BufTy).Contents (Elt F) → (⟨S131072, .i32⟩ : BufTy).Contents (Elt F)),
    StableHlo.ternary main_v613 main_v615 main_v559 main_v616 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v611 main_v617 (broadcastInDim S131072x1 ![0] bcast_S131072_S131072x1_0 : (⟨S131072, .i32⟩ : BufTy).Contents (Elt F) → (⟨S131072x1, .i32⟩ : BufTy).Contents (Elt F)),
    StableHlo.unary main_v616 main_v618 (broadcastInDim S131072x1 ![0] bcast_S131072_S131072x1_0 : (⟨S131072, .i32⟩ : BufTy).Contents (Elt F) → (⟨S131072x1, .i32⟩ : BufTy).Contents (Elt F)),
    StableHlo.binary main_v617 main_v618 main_v619 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg6 main_v619 main_v620 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_cst_210 (constant S_ .f32 0x3F800000#32),
    StableHlo.unary main_cst_210 main_v621 (broadcastInDim S131072 ![] bcast_S_S131072 : (⟨S_, .f32⟩ : BufTy).Contents (Elt F) → (⟨S131072, .f32⟩ : BufTy).Contents (Elt F)),
    StableHlo.binary main_v621 main_v553 main_v622 (subf : (⟨S131072, .f32⟩ : BufTy).Contents (Elt F) → (⟨S131072, .f32⟩ : BufTy).Contents (Elt F) → (⟨S131072, .f32⟩ : BufTy).Contents (Elt F)),
    StableHlo.unary main_v622 main_v623 (broadcastInDim S1x131072 ![1] bcast_S131072_S1x131072_1 : (⟨S131072, .f32⟩ : BufTy).Contents (Elt F) → (⟨S1x131072, .f32⟩ : BufTy).Contents (Elt F)),
    StableHlo.unary main_v623 main_v624 (broadcastInDim S32x131072 ![0, 1] bcast_S1x131072_S32x131072_0_1 : (⟨S1x131072, .f32⟩ : BufTy).Contents (Elt F) → (⟨S32x131072, .f32⟩ : BufTy).Contents (Elt F)),
    StableHlo.binary main_v578 main_v624 main_v625 (mulf : (⟨S32x131072, .f32⟩ : BufTy).Contents (Elt F) → (⟨S32x131072, .f32⟩ : BufTy).Contents (Elt F) → (⟨S32x131072, .f32⟩ : BufTy).Contents (Elt F)),
    StableHlo.nullary main_cst_211 (constant S_ .f32 0x3F800000#32) ]
theorem w13_eq (c : Dev nD) : main_part13 (F := F) c = seq w13 := rfl
theorem w13_sub : (w13 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub ..⟩
theorem w13_fresh : (w13 : List (HloOp τ sig (Elt F))).Forall fun op => op.fresh = ∅ := by
  simp only [List.Forall]; repeat' constructor
set_option maxHeartbeats 4000000 in
theorem w13_chain : Chain 908 (w13 : List (HloOp τ sig (Elt F))) :=
  Chain.cons (stepAt_unary 908 _ _ _ rfl (by decide)) <|
  Chain.cons (stepAt_binary 909 _ _ _ _ rfl (by decide) (by decide)) <|
  Chain.cons (stepAt_nullary 910 _ _ rfl) <|
  Chain.cons (stepAt_unary 911 _ _ _ rfl (by decide)) <|
  Chain.cons (stepAt_binary 912 _ _ _ _ rfl (by decide) (by decide)) <|
  Chain.cons (stepAt_ternary 913 _ _ _ _ _ rfl (by decide) (by decide) (by decide)) <|
  Chain.cons (stepAt_nullary 914 _ _ rfl) <|
  Chain.cons (stepAt_unary 915 _ _ _ rfl (by decide)) <|
  Chain.cons (stepAt_binary 916 _ _ _ _ rfl (by decide) (by decide)) <|
  Chain.cons (stepAt_nullary 917 _ _ rfl) <|
  Chain.cons (stepAt_unary 918 _ _ _ rfl (by decide)) <|
  Chain.cons (stepAt_binary 919 _ _ _ _ rfl (by decide) (by decide)) <|
  Chain.cons (stepAt_ternary 920 _ _ _ _ _ rfl (by decide) (by decide) (by decide)) <|
  Chain.cons (stepAt_unary 921 _ _ _ rfl (by decide)) <|
  Chain.cons (stepAt_unary 922 _ _ _ rfl (by decide)) <|
  Chain.cons (stepAt_binary 923 _ _ _ _ rfl (by decide) (by decide)) <|
  Chain.cons (stepAt_binary 924 _ _ _ _ rfl (by decide) (by decide)) <|
  Chain.cons (stepAt_nullary 925 _ _ rfl) <|
  Chain.cons (stepAt_unary 926 _ _ _ rfl (by decide)) <|
  Chain.cons (stepAt_binary 927 _ _ _ _ rfl (by decide) (by decide)) <|
  Chain.cons (stepAt_nullary 928 _ _ rfl) <|
  Chain.cons (stepAt_unary 929 _ _ _ rfl (by decide)) <|
  Chain.cons (stepAt_binary 930 _ _ _ _ rfl (by decide) (by decide)) <|
  Chain.cons (stepAt_ternary 931 _ _ _ _ _ rfl (by decide) (by decide) (by decide)) <|
  Chain.cons (stepAt_nullary 932 _ _ rfl) <|
  Chain.cons (stepAt_unary 933 _ _ _ rfl (by decide)) <|
  Chain.cons (stepAt_binary 934 _ _ _ _ rfl (by decide) (by decide)) <|
  Chain.cons (stepAt_nullary 935 _ _ rfl) <|
  Chain.cons (stepAt_unary 936 _ _ _ rfl (by decide)) <|
  Chain.cons (stepAt_binary 937 _ _ _ _ rfl (by decide) (by decide)) <|
  Chain.cons (stepAt_ternary 938 _ _ _ _ _ rfl (by decide) (by decide) (by decide)) <|
  Chain.cons (stepAt_unary 939 _ _ _ rfl (by decide)) <|
  Chain.cons (stepAt_unary 940 _ _ _ rfl (by decide)) <|
  Chain.cons (stepAt_binary 941 _ _ _ _ rfl (by decide) (by decide)) <|
  Chain.cons (stepAt_binary 942 _ _ _ _ rfl (by decide) (by decide)) <|
  Chain.cons (stepAt_nullary 943 _ _ rfl) <|
  Chain.cons (stepAt_unary 944 _ _ _ rfl (by decide)) <|
  Chain.cons (stepAt_binary 945 _ _ _ _ rfl (by decide) (by decide)) <|
  Chain.cons (stepAt_nullary 946 _ _ rfl) <|
  Chain.cons (stepAt_unary 947 _ _ _ rfl (by decide)) <|
  Chain.cons (stepAt_binary 948 _ _ _ _ rfl (by decide) (by decide)) <|
  Chain.cons (stepAt_ternary 949 _ _ _ _ _ rfl (by decide) (by decide) (by decide)) <|
  Chain.cons (stepAt_nullary 950 _ _ rfl) <|
  Chain.cons (stepAt_unary 951 _ _ _ rfl (by decide)) <|
  Chain.cons (stepAt_binary 952 _ _ _ _ rfl (by decide) (by decide)) <|
  Chain.cons (stepAt_nullary 953 _ _ rfl) <|
  Chain.cons (stepAt_unary 954 _ _ _ rfl (by decide)) <|
  Chain.cons (stepAt_binary 955 _ _ _ _ rfl (by decide) (by decide)) <|
  Chain.cons (stepAt_ternary 956 _ _ _ _ _ rfl (by decide) (by decide) (by decide)) <|
  Chain.cons (stepAt_unary 957 _ _ _ rfl (by decide)) <|
  Chain.cons (stepAt_unary 958 _ _ _ rfl (by decide)) <|
  Chain.cons (stepAt_binary 959 _ _ _ _ rfl (by decide) (by decide)) <|
  Chain.cons (stepAt_binary 960 _ _ _ _ rfl (by decide) (by decide)) <|
  Chain.cons (stepAt_nullary 961 _ _ rfl) <|
  Chain.cons (stepAt_unary 962 _ _ _ rfl (by decide)) <|
  Chain.cons (stepAt_binary 963 _ _ _ _ rfl (by decide) (by decide)) <|
  Chain.cons (stepAt_unary 964 _ _ _ rfl (by decide)) <|
  Chain.cons (stepAt_unary 965 _ _ _ rfl (by decide)) <|
  Chain.cons (stepAt_binary 966 _ _ _ _ rfl (by decide) (by decide)) <|
  Chain.cons (stepAt_nullary 967 _ _ rfl) <|
  Chain.nil
theorem w13_length : (w13 : List (HloOp τ sig (Elt F))).length = 60 := rfl

/-- Window 14 of @main: 60 operations, writing buffers 968 … 1027. -/
abbrev w14 : List (HloOp τ sig (Elt F)) :=
  [ StableHlo.unary main_cst_211 main_v626 (broadcastInDim S131072 ![] bcast_S_S131072 : (⟨S_, .f32⟩ : BufTy).Contents (Elt F) → (⟨S131072, .f32⟩ : BufTy).Contents (Elt F)),
    StableHlo.binary main_v626 main_v554 main_v627 (subf : (⟨S131072, .f32⟩ : BufTy).Contents (Elt F) → (⟨S131072, .f32⟩ : BufTy).Contents (Elt F) → (⟨S131072, .f32⟩ : BufTy).Contents (Elt F)),
    StableHlo.unary main_v627 main_v628 (broadcastInDim S1x131072 ![1] bcast_S131072_S1x131072_1 : (⟨S131072, .f32⟩ : BufTy).Contents (Elt F) → (⟨S1x131072, .f32⟩ : BufTy).Contents (Elt F)),
    StableHlo.unary main_v628 main_v629 (broadcastInDim S32x131072 ![0, 1] bcast_S1x131072_S32x131072_0_1 : (⟨S1x131072, .f32⟩ : BufTy).Contents (Elt F) → (⟨S32x131072, .f32⟩ : BufTy).Contents (Elt F)),
    StableHlo.binary main_v625 main_v629 main_v630 (mulf : (⟨S32x131072, .f32⟩ : BufTy).Contents (Elt F) → (⟨S32x131072, .f32⟩ : BufTy).Contents (Elt F) → (⟨S32x131072, .f32⟩ : BufTy).Contents (Elt F)),
    StableHlo.unary main_v553 main_v631 (broadcastInDim S1x131072 ![1] bcast_S131072_S1x131072_1 : (⟨S131072, .f32⟩ : BufTy).Contents (Elt F) → (⟨S1x131072, .f32⟩ : BufTy).Contents (Elt F)),
    StableHlo.unary main_v631 main_v632 (broadcastInDim S32x131072 ![0, 1] bcast_S1x131072_S32x131072_0_1 : (⟨S1x131072, .f32⟩ : BufTy).Contents (Elt F) → (⟨S32x131072, .f32⟩ : BufTy).Contents (Elt F)),
    StableHlo.binary main_v592 main_v632 main_v633 (mulf : (⟨S32x131072, .f32⟩ : BufTy).Contents (Elt F) → (⟨S32x131072, .f32⟩ : BufTy).Contents (Elt F) → (⟨S32x131072, .f32⟩ : BufTy).Contents (Elt F)),
    StableHlo.nullary main_cst_212 (constant S_ .f32 0x3F800000#32),
    StableHlo.unary main_cst_212 main_v634 (broadcastInDim S131072 ![] bcast_S_S131072 : (⟨S_, .f32⟩ : BufTy).Contents (Elt F) → (⟨S131072, .f32⟩ : BufTy).Contents (Elt F)),
    StableHlo.binary main_v634 main_v554 main_v635 (subf : (⟨S131072, .f32⟩ : BufTy).Contents (Elt F) → (⟨S131072, .f32⟩ : BufTy).Contents (Elt F) → (⟨S131072, .f32⟩ : BufTy).Contents (Elt F)),
    StableHlo.unary main_v635 main_v636 (broadcastInDim S1x131072 ![1] bcast_S131072_S1x131072_1 : (⟨S131072, .f32⟩ : BufTy).Contents (Elt F) → (⟨S1x131072, .f32⟩ : BufTy).Contents (Elt F)),
    StableHlo.unary main_v636 main_v637 (broadcastInDim S32x131072 ![0, 1] bcast_S1x131072_S32x131072_0_1 : (⟨S1x131072, .f32⟩ : BufTy).Contents (Elt F) → (⟨S32x131072, .f32⟩ : BufTy).Contents (Elt F)),
    StableHlo.binary main_v633 main_v637 main_v638 (mulf : (⟨S32x131072, .f32⟩ : BufTy).Contents (Elt F) → (⟨S32x131072, .f32⟩ : BufTy).Contents (Elt F) → (⟨S32x131072, .f32⟩ : BufTy).Contents (Elt F)),
    StableHlo.binary main_v630 main_v638 main_v639 (addf : (⟨S32x131072, .f32⟩ : BufTy).Contents (Elt F) → (⟨S32x131072, .f32⟩ : BufTy).Contents (Elt F) → (⟨S32x131072, .f32⟩ : BufTy).Contents (Elt F)),
    StableHlo.nullary main_cst_213 (constant S_ .f32 0x3F800000#32),
    StableHlo.unary main_cst_213 main_v640 (broadcastInDim S131072 ![] bcast_S_S131072 : (⟨S_, .f32⟩ : BufTy).Contents (Elt F) → (⟨S131072, .f32⟩ : BufTy).Contents (Elt F)),
    StableHlo.binary main_v640 main_v553 main_v641 (subf : (⟨S131072, .f32⟩ : BufTy).Contents (Elt F) → (⟨S131072, .f32⟩ : BufTy).Contents (Elt F) → (⟨S131072, .f32⟩ : BufTy).Contents (Elt F)),
    StableHlo.unary main_v641 main_v642 (broadcastInDim S1x131072 ![1] bcast_S131072_S1x131072_1 : (⟨S131072, .f32⟩ : BufTy).Contents (Elt F) → (⟨S1x131072, .f32⟩ : BufTy).Contents (Elt F)),
    StableHlo.unary main_v642 main_v643 (broadcastInDim S32x131072 ![0, 1] bcast_S1x131072_S32x131072_0_1 : (⟨S1x131072, .f32⟩ : BufTy).Contents (Elt F) → (⟨S32x131072, .f32⟩ : BufTy).Contents (Elt F)),
    StableHlo.binary main_v606 main_v643 main_v644 (mulf : (⟨S32x131072, .f32⟩ : BufTy).Contents (Elt F) → (⟨S32x131072, .f32⟩ : BufTy).Contents (Elt F) → (⟨S32x131072, .f32⟩ : BufTy).Contents (Elt F)),
    StableHlo.unary main_v554 main_v645 (broadcastInDim S1x131072 ![1] bcast_S131072_S1x131072_1 : (⟨S131072, .f32⟩ : BufTy).Contents (Elt F) → (⟨S1x131072, .f32⟩ : BufTy).Contents (Elt F)),
    StableHlo.unary main_v645 main_v646 (broadcastInDim S32x131072 ![0, 1] bcast_S1x131072_S32x131072_0_1 : (⟨S1x131072, .f32⟩ : BufTy).Contents (Elt F) → (⟨S32x131072, .f32⟩ : BufTy).Contents (Elt F)),
    StableHlo.binary main_v644 main_v646 main_v647 (mulf : (⟨S32x131072, .f32⟩ : BufTy).Contents (Elt F) → (⟨S32x131072, .f32⟩ : BufTy).Contents (Elt F) → (⟨S32x131072, .f32⟩ : BufTy).Contents (Elt F)),
    StableHlo.binary main_v639 main_v647 main_v648 (addf : (⟨S32x131072, .f32⟩ : BufTy).Contents (Elt F) → (⟨S32x131072, .f32⟩ : BufTy).Contents (Elt F) → (⟨S32x131072, .f32⟩ : BufTy).Contents (Elt F)),
    StableHlo.unary main_v553 main_v649 (broadcastInDim S1x131072 ![1] bcast_S131072_S1x131072_1 : (⟨S131072, .f32⟩ : BufTy).Contents (Elt F) → (⟨S1x131072, .f32⟩ : BufTy).Contents (Elt F)),
    StableHlo.unary main_v649 main_v650 (broadcastInDim S32x131072 ![0, 1] bcast_S1x131072_S32x131072_0_1 : (⟨S1x131072, .f32⟩ : BufTy).Contents (Elt F) → (⟨S32x131072, .f32⟩ : BufTy).Contents (Elt F)),
    StableHlo.binary main_v620 main_v650 main_v651 (mulf : (⟨S32x131072, .f32⟩ : BufTy).Contents (Elt F) → (⟨S32x131072, .f32⟩ : BufTy).Contents (Elt F) → (⟨S32x131072, .f32⟩ : BufTy).Contents (Elt F)),
    StableHlo.unary main_v554 main_v652 (broadcastInDim S1x131072 ![1] bcast_S131072_S1x131072_1 : (⟨S131072, .f32⟩ : BufTy).Contents (Elt F) → (⟨S1x131072, .f32⟩ : BufTy).Contents (Elt F)),
    StableHlo.unary main_v652 main_v653 (broadcastInDim S32x131072 ![0, 1] bcast_S1x131072_S32x131072_0_1 : (⟨S1x131072, .f32⟩ : BufTy).Contents (Elt F) → (⟨S32x131072, .f32⟩ : BufTy).Contents (Elt F)),
    StableHlo.binary main_v651 main_v653 main_v654 (mulf : (⟨S32x131072, .f32⟩ : BufTy).Contents (Elt F) → (⟨S32x131072, .f32⟩ : BufTy).Contents (Elt F) → (⟨S32x131072, .f32⟩ : BufTy).Contents (Elt F)),
    StableHlo.binary main_v648 main_v654 main_v655 (addf : (⟨S32x131072, .f32⟩ : BufTy).Contents (Elt F) → (⟨S32x131072, .f32⟩ : BufTy).Contents (Elt F) → (⟨S32x131072, .f32⟩ : BufTy).Contents (Elt F)),
    StableHlo.unary main_v655 main_v656 ((transpose S131072x32 [1, 0] · transposes_S32x131072_S131072x32_1_0) : (⟨S32x131072, .f32⟩ : BufTy).Contents (Elt F) → (⟨S131072x32, .f32⟩ : BufTy).Contents (Elt F)),
    StableHlo.binary main_v527 main_v656 main_v657 (mulf : (⟨S131072x32, .f32⟩ : BufTy).Contents (Elt F) → (⟨S131072x32, .f32⟩ : BufTy).Contents (Elt F) → (⟨S131072x32, .f32⟩ : BufTy).Contents (Elt F)),
    StableHlo.nullary main_c_214 (constantI S_ 32 0#32),
    StableHlo.unary main_c_214 main_v658 (broadcastInDim S2 ![] bcast_S_S2 : (⟨S_, .i32⟩ : BufTy).Contents (Elt F) → (⟨S2, .i32⟩ : BufTy).Contents (Elt F)),
    StableHlo.binary main_c_4 main_v658 main_v659 (cmpi .slt : (⟨S2, .i32⟩ : BufTy).Contents (Elt F) → (⟨S2, .i32⟩ : BufTy).Contents (Elt F) → (⟨S2, .i1⟩ : BufTy).Contents (Elt F)),
    StableHlo.nullary main_c_215 (constantI S_ 32 4#32),
    StableHlo.unary main_c_215 main_v660 (broadcastInDim S2 ![] bcast_S_S2 : (⟨S_, .i32⟩ : BufTy).Contents (Elt F) → (⟨S2, .i32⟩ : BufTy).Contents (Elt F)),
    StableHlo.binary main_c_4 main_v660 main_v661 (addi : (⟨S2, .i32⟩ : BufTy).Contents (Elt F) → (⟨S2, .i32⟩ : BufTy).Contents (Elt F) → (⟨S2, .i32⟩ : BufTy).Contents (Elt F)),
    StableHlo.ternary main_v659 main_v661 main_c_4 main_v662 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v662 main_v663 (broadcastInDim S2x1 ![0] bcast_S2_S2x1_0 : (⟨S2, .i32⟩ : BufTy).Contents (Elt F) → (⟨S2x1, .i32⟩ : BufTy).Contents (Elt F)),
    StableHlo.binary main_v8 main_v663 main_v664 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v664 main_v665 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v665 main_v666 rfl shapeCasts_S131072x1_S131072,
    StableHlo.nullary main_cst_216 (constant S_ .f32 0x3F800000#32),
    StableHlo.unary main_cst_216 main_v667 (broadcastInDim S131072 ![] bcast_S_S131072 : (⟨S_, .f32⟩ : BufTy).Contents (Elt F) → (⟨S131072, .f32⟩ : BufTy).Contents (Elt F)),
    StableHlo.binary main_v666 main_v667 main_v668 (addf : (⟨S131072, .f32⟩ : BufTy).Contents (Elt F) → (⟨S131072, .f32⟩ : BufTy).Contents (Elt F) → (⟨S131072, .f32⟩ : BufTy).Contents (Elt F)),
    StableHlo.nullary main_cst_217 (constant S_ .f32 0x3F000000#32),
    StableHlo.unary main_cst_217 main_v669 (broadcastInDim S131072 ![] bcast_S_S131072 : (⟨S_, .f32⟩ : BufTy).Contents (Elt F) → (⟨S131072, .f32⟩ : BufTy).Contents (Elt F)),
    StableHlo.binary main_v668 main_v669 main_v670 (mulf : (⟨S131072, .f32⟩ : BufTy).Contents (Elt F) → (⟨S131072, .f32⟩ : BufTy).Contents (Elt F) → (⟨S131072, .f32⟩ : BufTy).Contents (Elt F)),
    StableHlo.nullary main_cst_218 (constant S_ .f32 0x427C0000#32),
    StableHlo.unary main_cst_218 main_v671 (broadcastInDim S131072 ![] bcast_S_S131072 : (⟨S_, .f32⟩ : BufTy).Contents (Elt F) → (⟨S131072, .f32⟩ : BufTy).Contents (Elt F)),
    StableHlo.binary main_v670 main_v671 main_v672 (mulf : (⟨S131072, .f32⟩ : BufTy).Contents (Elt F) → (⟨S131072, .f32⟩ : BufTy).Contents (Elt F) → (⟨S131072, .f32⟩ : BufTy).Contents (Elt F)),
    StableHlo.unary main_v664 main_v673 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v673 main_v674 rfl shapeCasts_S131072x1_S131072,
    StableHlo.nullary main_cst_219 (constant S_ .f32 0x3F800000#32),
    StableHlo.unary main_cst_219 main_v675 (broadcastInDim S131072 ![] bcast_S_S131072 : (⟨S_, .f32⟩ : BufTy).Contents (Elt F) → (⟨S131072, .f32⟩ : BufTy).Contents (Elt F)),
    StableHlo.binary main_v674 main_v675 main_v676 (addf : (⟨S131072, .f32⟩ : BufTy).Contents (Elt F) → (⟨S131072, .f32⟩ : BufTy).Contents (Elt F) → (⟨S131072, .f32⟩ : BufTy).Contents (Elt F)),
    StableHlo.nullary main_cst_220 (constant S_ .f32 0x3F000000#32) ]
theorem w14_eq (c : Dev nD) : main_part14 (F := F) c = seq w14 := rfl
theorem w14_sub : (w14 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub ..⟩
theorem w14_fresh : (w14 : List (HloOp τ sig (Elt F))).Forall fun op => op.fresh = ∅ := by
  simp only [List.Forall]; repeat' constructor
set_option maxHeartbeats 4000000 in
theorem w14_chain : Chain 968 (w14 : List (HloOp τ sig (Elt F))) :=
  Chain.cons (stepAt_unary 968 _ _ _ rfl (by decide)) <|
  Chain.cons (stepAt_binary 969 _ _ _ _ rfl (by decide) (by decide)) <|
  Chain.cons (stepAt_unary 970 _ _ _ rfl (by decide)) <|
  Chain.cons (stepAt_unary 971 _ _ _ rfl (by decide)) <|
  Chain.cons (stepAt_binary 972 _ _ _ _ rfl (by decide) (by decide)) <|
  Chain.cons (stepAt_unary 973 _ _ _ rfl (by decide)) <|
  Chain.cons (stepAt_unary 974 _ _ _ rfl (by decide)) <|
  Chain.cons (stepAt_binary 975 _ _ _ _ rfl (by decide) (by decide)) <|
  Chain.cons (stepAt_nullary 976 _ _ rfl) <|
  Chain.cons (stepAt_unary 977 _ _ _ rfl (by decide)) <|
  Chain.cons (stepAt_binary 978 _ _ _ _ rfl (by decide) (by decide)) <|
  Chain.cons (stepAt_unary 979 _ _ _ rfl (by decide)) <|
  Chain.cons (stepAt_unary 980 _ _ _ rfl (by decide)) <|
  Chain.cons (stepAt_binary 981 _ _ _ _ rfl (by decide) (by decide)) <|
  Chain.cons (stepAt_binary 982 _ _ _ _ rfl (by decide) (by decide)) <|
  Chain.cons (stepAt_nullary 983 _ _ rfl) <|
  Chain.cons (stepAt_unary 984 _ _ _ rfl (by decide)) <|
  Chain.cons (stepAt_binary 985 _ _ _ _ rfl (by decide) (by decide)) <|
  Chain.cons (stepAt_unary 986 _ _ _ rfl (by decide)) <|
  Chain.cons (stepAt_unary 987 _ _ _ rfl (by decide)) <|
  Chain.cons (stepAt_binary 988 _ _ _ _ rfl (by decide) (by decide)) <|
  Chain.cons (stepAt_unary 989 _ _ _ rfl (by decide)) <|
  Chain.cons (stepAt_unary 990 _ _ _ rfl (by decide)) <|
  Chain.cons (stepAt_binary 991 _ _ _ _ rfl (by decide) (by decide)) <|
  Chain.cons (stepAt_binary 992 _ _ _ _ rfl (by decide) (by decide)) <|
  Chain.cons (stepAt_unary 993 _ _ _ rfl (by decide)) <|
  Chain.cons (stepAt_unary 994 _ _ _ rfl (by decide)) <|
  Chain.cons (stepAt_binary 995 _ _ _ _ rfl (by decide) (by decide)) <|
  Chain.cons (stepAt_unary 996 _ _ _ rfl (by decide)) <|
  Chain.cons (stepAt_unary 997 _ _ _ rfl (by decide)) <|
  Chain.cons (stepAt_binary 998 _ _ _ _ rfl (by decide) (by decide)) <|
  Chain.cons (stepAt_binary 999 _ _ _ _ rfl (by decide) (by decide)) <|
  Chain.cons (stepAt_unary 1000 _ _ _ rfl (by decide)) <|
  Chain.cons (stepAt_binary 1001 _ _ _ _ rfl (by decide) (by decide)) <|
  Chain.cons (stepAt_nullary 1002 _ _ rfl) <|
  Chain.cons (stepAt_unary 1003 _ _ _ rfl (by decide)) <|
  Chain.cons (stepAt_binary 1004 _ _ _ _ rfl (by decide) (by decide)) <|
  Chain.cons (stepAt_nullary 1005 _ _ rfl) <|
  Chain.cons (stepAt_unary 1006 _ _ _ rfl (by decide)) <|
  Chain.cons (stepAt_binary 1007 _ _ _ _ rfl (by decide) (by decide)) <|
  Chain.cons (stepAt_ternary 1008 _ _ _ _ _ rfl (by decide) (by decide) (by decide)) <|
  Chain.cons (stepAt_unary 1009 _ _ _ rfl (by decide)) <|
  Chain.cons (stepAt_binary 1010 _ _ _ _ rfl (by decide) (by decide)) <|
  Chain.cons (stepAt_unary 1011 _ _ _ rfl (by decide)) <|
  Chain.cons (stepAt_reshape 1012 _ _ _ _ rfl (by decide)) <|
  Chain.cons (stepAt_nullary 1013 _ _ rfl) <|
  Chain.cons (stepAt_unary 1014 _ _ _ rfl (by decide)) <|
  Chain.cons (stepAt_binary 1015 _ _ _ _ rfl (by decide) (by decide)) <|
  Chain.cons (stepAt_nullary 1016 _ _ rfl) <|
  Chain.cons (stepAt_unary 1017 _ _ _ rfl (by decide)) <|
  Chain.cons (stepAt_binary 1018 _ _ _ _ rfl (by decide) (by decide)) <|
  Chain.cons (stepAt_nullary 1019 _ _ rfl) <|
  Chain.cons (stepAt_unary 1020 _ _ _ rfl (by decide)) <|
  Chain.cons (stepAt_binary 1021 _ _ _ _ rfl (by decide) (by decide)) <|
  Chain.cons (stepAt_unary 1022 _ _ _ rfl (by decide)) <|
  Chain.cons (stepAt_reshape 1023 _ _ _ _ rfl (by decide)) <|
  Chain.cons (stepAt_nullary 1024 _ _ rfl) <|
  Chain.cons (stepAt_unary 1025 _ _ _ rfl (by decide)) <|
  Chain.cons (stepAt_binary 1026 _ _ _ _ rfl (by decide) (by decide)) <|
  Chain.cons (stepAt_nullary 1027 _ _ rfl) <|
  Chain.nil
theorem w14_length : (w14 : List (HloOp τ sig (Elt F))).length = 60 := rfl

/-- Window 15 of @main: 80 operations, writing buffers 1028 … 1107. -/
abbrev w15 : List (HloOp τ sig (Elt F)) :=
  [ StableHlo.unary main_cst_220 main_v677 (broadcastInDim S131072 ![] bcast_S_S131072 : (⟨S_, .f32⟩ : BufTy).Contents (Elt F) → (⟨S131072, .f32⟩ : BufTy).Contents (Elt F)),
    StableHlo.binary main_v676 main_v677 main_v678 (mulf : (⟨S131072, .f32⟩ : BufTy).Contents (Elt F) → (⟨S131072, .f32⟩ : BufTy).Contents (Elt F) → (⟨S131072, .f32⟩ : BufTy).Contents (Elt F)),
    StableHlo.nullary main_cst_221 (constant S_ .f32 0x43150000#32),
    StableHlo.unary main_cst_221 main_v679 (broadcastInDim S131072 ![] bcast_S_S131072 : (⟨S_, .f32⟩ : BufTy).Contents (Elt F) → (⟨S131072, .f32⟩ : BufTy).Contents (Elt F)),
    StableHlo.binary main_v678 main_v679 main_v680 (mulf : (⟨S131072, .f32⟩ : BufTy).Contents (Elt F) → (⟨S131072, .f32⟩ : BufTy).Contents (Elt F) → (⟨S131072, .f32⟩ : BufTy).Contents (Elt F)),
    StableHlo.unary main_v672 main_v681 (Host.floor : (⟨S131072, .f32⟩ : BufTy).Contents (Elt F) → (⟨S131072, .f32⟩ : BufTy).Contents (Elt F)),
    StableHlo.unary main_v680 main_v682 (Host.floor : (⟨S131072, .f32⟩ : BufTy).Contents (Elt F) → (⟨S131072, .f32⟩ : BufTy).Contents (Elt F)),
    StableHlo.binary main_v672 main_v681 main_v683 (subf : (⟨S131072, .f32⟩ : BufTy).Contents (Elt F) → (⟨S131072, .f32⟩ : BufTy).Contents (Elt F) → (⟨S131072, .f32⟩ : BufTy).Contents (Elt F)),
    StableHlo.binary main_v680 main_v682 main_v684 (subf : (⟨S131072, .f32⟩ : BufTy).Contents (Elt F) → (⟨S131072, .f32⟩ : BufTy).Contents (Elt F) → (⟨S131072, .f32⟩ : BufTy).Contents (Elt F)),
    StableHlo.unary main_v681 main_v685 (fptosi 32 : (⟨S131072, .f32⟩ : BufTy).Contents (Elt F) → (⟨S131072, .i32⟩ : BufTy).Contents (Elt F)),
    StableHlo.nullary main_c_222 (constantI S_ 32 0#32),
    StableHlo.nullary main_c_223 (constantI S_ 32 63#32),
    StableHlo.TRef.unary (.of main_c_222) main_call20.v0 id,
    StableHlo.TRef.unary main_call20.v0 main_call20.v1 (broadcastInDim S131072 ![] bcast_S_S131072),
    StableHlo.TRef.binary main_call20.v1 (.of main_v685) main_call20.v2 maxsi,
    StableHlo.TRef.unary (.of main_c_223) main_call20.v3 id,
    StableHlo.TRef.unary main_call20.v3 main_call20.v4 (broadcastInDim S131072 ![] bcast_S_S131072),
    StableHlo.TRef.binary main_call20.v4 main_call20.v2 main_call20.v5 minsi,
    StableHlo.nullary main_c_224 (constantI S_ 32 1#32),
    StableHlo.unary main_c_224 main_v687 (broadcastInDim S131072 ![] bcast_S_S131072 : (⟨S_, .i32⟩ : BufTy).Contents (Elt F) → (⟨S131072, .i32⟩ : BufTy).Contents (Elt F)),
    StableHlo.binary main_v686 main_v687 main_v688 (addi : (⟨S131072, .i32⟩ : BufTy).Contents (Elt F) → (⟨S131072, .i32⟩ : BufTy).Contents (Elt F) → (⟨S131072, .i32⟩ : BufTy).Contents (Elt F)),
    StableHlo.nullary main_c_225 (constantI S_ 32 0#32),
    StableHlo.nullary main_c_226 (constantI S_ 32 63#32),
    StableHlo.TRef.unary (.of main_c_225) main_call21.v0 id,
    StableHlo.TRef.unary main_call21.v0 main_call21.v1 (broadcastInDim S131072 ![] bcast_S_S131072),
    StableHlo.TRef.binary main_call21.v1 (.of main_v688) main_call21.v2 maxsi,
    StableHlo.TRef.unary (.of main_c_226) main_call21.v3 id,
    StableHlo.TRef.unary main_call21.v3 main_call21.v4 (broadcastInDim S131072 ![] bcast_S_S131072),
    StableHlo.TRef.binary main_call21.v4 main_call21.v2 main_call21.v5 minsi,
    StableHlo.unary main_v682 main_v690 (fptosi 32 : (⟨S131072, .f32⟩ : BufTy).Contents (Elt F) → (⟨S131072, .i32⟩ : BufTy).Contents (Elt F)),
    StableHlo.nullary main_c_227 (constantI S_ 32 0#32),
    StableHlo.nullary main_c_228 (constantI S_ 32 149#32),
    StableHlo.TRef.unary (.of main_c_227) main_call22.v0 id,
    StableHlo.TRef.unary main_call22.v0 main_call22.v1 (broadcastInDim S131072 ![] bcast_S_S131072),
    StableHlo.TRef.binary main_call22.v1 (.of main_v690) main_call22.v2 maxsi,
    StableHlo.TRef.unary (.of main_c_228) main_call22.v3 id,
    StableHlo.TRef.unary main_call22.v3 main_call22.v4 (broadcastInDim S131072 ![] bcast_S_S131072),
    StableHlo.TRef.binary main_call22.v4 main_call22.v2 main_call22.v5 minsi,
    StableHlo.nullary main_c_229 (constantI S_ 32 1#32),
    StableHlo.unary main_c_229 main_v692 (broadcastInDim S131072 ![] bcast_S_S131072 : (⟨S_, .i32⟩ : BufTy).Contents (Elt F) → (⟨S131072, .i32⟩ : BufTy).Contents (Elt F)),
    StableHlo.binary main_v691 main_v692 main_v693 (addi : (⟨S131072, .i32⟩ : BufTy).Contents (Elt F) → (⟨S131072, .i32⟩ : BufTy).Contents (Elt F) → (⟨S131072, .i32⟩ : BufTy).Contents (Elt F)),
    StableHlo.nullary main_c_230 (constantI S_ 32 0#32),
    StableHlo.nullary main_c_231 (constantI S_ 32 149#32),
    StableHlo.TRef.unary (.of main_c_230) main_call23.v0 id,
    StableHlo.TRef.unary main_call23.v0 main_call23.v1 (broadcastInDim S131072 ![] bcast_S_S131072),
    StableHlo.TRef.binary main_call23.v1 (.of main_v693) main_call23.v2 maxsi,
    StableHlo.TRef.unary (.of main_c_231) main_call23.v3 id,
    StableHlo.TRef.unary main_call23.v3 main_call23.v4 (broadcastInDim S131072 ![] bcast_S_S131072),
    StableHlo.TRef.binary main_call23.v4 main_call23.v2 main_call23.v5 minsi,
    StableHlo.nullary main_c_232 (constantI S_ 32 0#32),
    StableHlo.unary main_c_232 main_v695 (broadcastInDim S131072 ![] bcast_S_S131072 : (⟨S_, .i32⟩ : BufTy).Contents (Elt F) → (⟨S131072, .i32⟩ : BufTy).Contents (Elt F)),
    StableHlo.binary main_v691 main_v695 main_v696 (cmpi .slt : (⟨S131072, .i32⟩ : BufTy).Contents (Elt F) → (⟨S131072, .i32⟩ : BufTy).Contents (Elt F) → (⟨S131072, .i1⟩ : BufTy).Contents (Elt F)),
    StableHlo.nullary main_c_233 (constantI S_ 32 150#32),
    StableHlo.unary main_c_233 main_v697 (broadcastInDim S131072 ![] bcast_S_S131072 : (⟨S_, .i32⟩ : BufTy).Contents (Elt F) → (⟨S131072, .i32⟩ : BufTy).Contents (Elt F)),
    StableHlo.binary main_v691 main_v697 main_v698 (addi : (⟨S131072, .i32⟩ : BufTy).Contents (Elt F) → (⟨S131072, .i32⟩ : BufTy).Contents (Elt F) → (⟨S131072, .i32⟩ : BufTy).Contents (Elt F)),
    StableHlo.ternary main_v696 main_v698 main_v691 main_v699 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_234 (constantI S_ 32 0#32),
    StableHlo.unary main_c_234 main_v700 (broadcastInDim S131072 ![] bcast_S_S131072 : (⟨S_, .i32⟩ : BufTy).Contents (Elt F) → (⟨S131072, .i32⟩ : BufTy).Contents (Elt F)),
    StableHlo.binary main_v686 main_v700 main_v701 (cmpi .slt : (⟨S131072, .i32⟩ : BufTy).Contents (Elt F) → (⟨S131072, .i32⟩ : BufTy).Contents (Elt F) → (⟨S131072, .i1⟩ : BufTy).Contents (Elt F)),
    StableHlo.nullary main_c_235 (constantI S_ 32 64#32),
    StableHlo.unary main_c_235 main_v702 (broadcastInDim S131072 ![] bcast_S_S131072 : (⟨S_, .i32⟩ : BufTy).Contents (Elt F) → (⟨S131072, .i32⟩ : BufTy).Contents (Elt F)),
    StableHlo.binary main_v686 main_v702 main_v703 (addi : (⟨S131072, .i32⟩ : BufTy).Contents (Elt F) → (⟨S131072, .i32⟩ : BufTy).Contents (Elt F) → (⟨S131072, .i32⟩ : BufTy).Contents (Elt F)),
    StableHlo.ternary main_v701 main_v703 main_v686 main_v704 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v699 main_v705 (broadcastInDim S131072x1 ![0] bcast_S131072_S131072x1_0 : (⟨S131072, .i32⟩ : BufTy).Contents (Elt F) → (⟨S131072x1, .i32⟩ : BufTy).Contents (Elt F)),
    StableHlo.unary main_v704 main_v706 (broadcastInDim S131072x1 ![0] bcast_S131072_S131072x1_0 : (⟨S131072, .i32⟩ : BufTy).Contents (Elt F) → (⟨S131072x1, .i32⟩ : BufTy).Contents (Elt F)),
    StableHlo.binary main_v705 main_v706 main_v707 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg7 main_v707 main_v708 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_236 (constantI S_ 32 0#32),
    StableHlo.unary main_c_236 main_v709 (broadcastInDim S131072 ![] bcast_S_S131072 : (⟨S_, .i32⟩ : BufTy).Contents (Elt F) → (⟨S131072, .i32⟩ : BufTy).Contents (Elt F)),
    StableHlo.binary main_v691 main_v709 main_v710 (cmpi .slt : (⟨S131072, .i32⟩ : BufTy).Contents (Elt F) → (⟨S131072, .i32⟩ : BufTy).Contents (Elt F) → (⟨S131072, .i1⟩ : BufTy).Contents (Elt F)),
    StableHlo.nullary main_c_237 (constantI S_ 32 150#32),
    StableHlo.unary main_c_237 main_v711 (broadcastInDim S131072 ![] bcast_S_S131072 : (⟨S_, .i32⟩ : BufTy).Contents (Elt F) → (⟨S131072, .i32⟩ : BufTy).Contents (Elt F)),
    StableHlo.binary main_v691 main_v711 main_v712 (addi : (⟨S131072, .i32⟩ : BufTy).Contents (Elt F) → (⟨S131072, .i32⟩ : BufTy).Contents (Elt F) → (⟨S131072, .i32⟩ : BufTy).Contents (Elt F)),
    StableHlo.ternary main_v710 main_v712 main_v691 main_v713 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_238 (constantI S_ 32 0#32),
    StableHlo.unary main_c_238 main_v714 (broadcastInDim S131072 ![] bcast_S_S131072 : (⟨S_, .i32⟩ : BufTy).Contents (Elt F) → (⟨S131072, .i32⟩ : BufTy).Contents (Elt F)),
    StableHlo.binary main_v689 main_v714 main_v715 (cmpi .slt : (⟨S131072, .i32⟩ : BufTy).Contents (Elt F) → (⟨S131072, .i32⟩ : BufTy).Contents (Elt F) → (⟨S131072, .i1⟩ : BufTy).Contents (Elt F)),
    StableHlo.nullary main_c_239 (constantI S_ 32 64#32),
    StableHlo.unary main_c_239 main_v716 (broadcastInDim S131072 ![] bcast_S_S131072 : (⟨S_, .i32⟩ : BufTy).Contents (Elt F) → (⟨S131072, .i32⟩ : BufTy).Contents (Elt F)),
    StableHlo.binary main_v689 main_v716 main_v717 (addi : (⟨S131072, .i32⟩ : BufTy).Contents (Elt F) → (⟨S131072, .i32⟩ : BufTy).Contents (Elt F) → (⟨S131072, .i32⟩ : BufTy).Contents (Elt F)) ]
theorem w15_eq (c : Dev nD) : main_part15 (F := F) c = seq w15 := rfl
theorem w15_sub : (w15 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem w15_fresh : (w15 : List (HloOp τ sig (Elt F))).Forall fun op => op.fresh = ∅ := by
  simp only [List.Forall]; repeat' constructor
set_option maxHeartbeats 4000000 in
theorem w15_chain : Chain 1028 (w15 : List (HloOp τ sig (Elt F))) :=
  Chain.cons (stepAt_unary 1028 _ _ _ rfl (by decide)) <|
  Chain.cons (stepAt_binary 1029 _ _ _ _ rfl (by decide) (by decide)) <|
  Chain.cons (stepAt_nullary 1030 _ _ rfl) <|
  Chain.cons (stepAt_unary 1031 _ _ _ rfl (by decide)) <|
  Chain.cons (stepAt_binary 1032 _ _ _ _ rfl (by decide) (by decide)) <|
  Chain.cons (stepAt_unary 1033 _ _ _ rfl (by decide)) <|
  Chain.cons (stepAt_unary 1034 _ _ _ rfl (by decide)) <|
  Chain.cons (stepAt_binary 1035 _ _ _ _ rfl (by decide) (by decide)) <|
  Chain.cons (stepAt_binary 1036 _ _ _ _ rfl (by decide) (by decide)) <|
  Chain.cons (stepAt_unary 1037 _ _ _ rfl (by decide)) <|
  Chain.cons (stepAt_nullary 1038 _ _ rfl) <|
  Chain.cons (stepAt_nullary 1039 _ _ rfl) <|
  Chain.cons (stepAt_unary 1040 _ _ _ rfl (by decide)) <|
  Chain.cons (stepAt_unary 1041 _ _ _ rfl (by decide)) <|
  Chain.cons (stepAt_binary 1042 _ _ _ _ rfl (by decide) (by decide)) <|
  Chain.cons (stepAt_unary 1043 _ _ _ rfl (by decide)) <|
  Chain.cons (stepAt_unary 1044 _ _ _ rfl (by decide)) <|
  Chain.cons (stepAt_binary 1045 _ _ _ _ rfl (by decide) (by decide)) <|
  Chain.cons (stepAt_nullary 1046 _ _ rfl) <|
  Chain.cons (stepAt_unary 1047 _ _ _ rfl (by decide)) <|
  Chain.cons (stepAt_binary 1048 _ _ _ _ rfl (by decide) (by decide)) <|
  Chain.cons (stepAt_nullary 1049 _ _ rfl) <|
  Chain.cons (stepAt_nullary 1050 _ _ rfl) <|
  Chain.cons (stepAt_unary 1051 _ _ _ rfl (by decide)) <|
  Chain.cons (stepAt_unary 1052 _ _ _ rfl (by decide)) <|
  Chain.cons (stepAt_binary 1053 _ _ _ _ rfl (by decide) (by decide)) <|
  Chain.cons (stepAt_unary 1054 _ _ _ rfl (by decide)) <|
  Chain.cons (stepAt_unary 1055 _ _ _ rfl (by decide)) <|
  Chain.cons (stepAt_binary 1056 _ _ _ _ rfl (by decide) (by decide)) <|
  Chain.cons (stepAt_unary 1057 _ _ _ rfl (by decide)) <|
  Chain.cons (stepAt_nullary 1058 _ _ rfl) <|
  Chain.cons (stepAt_nullary 1059 _ _ rfl) <|
  Chain.cons (stepAt_unary 1060 _ _ _ rfl (by decide)) <|
  Chain.cons (stepAt_unary 1061 _ _ _ rfl (by decide)) <|
  Chain.cons (stepAt_binary 1062 _ _ _ _ rfl (by decide) (by decide)) <|
  Chain.cons (stepAt_unary 1063 _ _ _ rfl (by decide)) <|
  Chain.cons (stepAt_unary 1064 _ _ _ rfl (by decide)) <|
  Chain.cons (stepAt_binary 1065 _ _ _ _ rfl (by decide) (by decide)) <|
  Chain.cons (stepAt_nullary 1066 _ _ rfl) <|
  Chain.cons (stepAt_unary 1067 _ _ _ rfl (by decide)) <|
  Chain.cons (stepAt_binary 1068 _ _ _ _ rfl (by decide) (by decide)) <|
  Chain.cons (stepAt_nullary 1069 _ _ rfl) <|
  Chain.cons (stepAt_nullary 1070 _ _ rfl) <|
  Chain.cons (stepAt_unary 1071 _ _ _ rfl (by decide)) <|
  Chain.cons (stepAt_unary 1072 _ _ _ rfl (by decide)) <|
  Chain.cons (stepAt_binary 1073 _ _ _ _ rfl (by decide) (by decide)) <|
  Chain.cons (stepAt_unary 1074 _ _ _ rfl (by decide)) <|
  Chain.cons (stepAt_unary 1075 _ _ _ rfl (by decide)) <|
  Chain.cons (stepAt_binary 1076 _ _ _ _ rfl (by decide) (by decide)) <|
  Chain.cons (stepAt_nullary 1077 _ _ rfl) <|
  Chain.cons (stepAt_unary 1078 _ _ _ rfl (by decide)) <|
  Chain.cons (stepAt_binary 1079 _ _ _ _ rfl (by decide) (by decide)) <|
  Chain.cons (stepAt_nullary 1080 _ _ rfl) <|
  Chain.cons (stepAt_unary 1081 _ _ _ rfl (by decide)) <|
  Chain.cons (stepAt_binary 1082 _ _ _ _ rfl (by decide) (by decide)) <|
  Chain.cons (stepAt_ternary 1083 _ _ _ _ _ rfl (by decide) (by decide) (by decide)) <|
  Chain.cons (stepAt_nullary 1084 _ _ rfl) <|
  Chain.cons (stepAt_unary 1085 _ _ _ rfl (by decide)) <|
  Chain.cons (stepAt_binary 1086 _ _ _ _ rfl (by decide) (by decide)) <|
  Chain.cons (stepAt_nullary 1087 _ _ rfl) <|
  Chain.cons (stepAt_unary 1088 _ _ _ rfl (by decide)) <|
  Chain.cons (stepAt_binary 1089 _ _ _ _ rfl (by decide) (by decide)) <|
  Chain.cons (stepAt_ternary 1090 _ _ _ _ _ rfl (by decide) (by decide) (by decide)) <|
  Chain.cons (stepAt_unary 1091 _ _ _ rfl (by decide)) <|
  Chain.cons (stepAt_unary 1092 _ _ _ rfl (by decide)) <|
  Chain.cons (stepAt_binary 1093 _ _ _ _ rfl (by decide) (by decide)) <|
  Chain.cons (stepAt_binary 1094 _ _ _ _ rfl (by decide) (by decide)) <|
  Chain.cons (stepAt_nullary 1095 _ _ rfl) <|
  Chain.cons (stepAt_unary 1096 _ _ _ rfl (by decide)) <|
  Chain.cons (stepAt_binary 1097 _ _ _ _ rfl (by decide) (by decide)) <|
  Chain.cons (stepAt_nullary 1098 _ _ rfl) <|
  Chain.cons (stepAt_unary 1099 _ _ _ rfl (by decide)) <|
  Chain.cons (stepAt_binary 1100 _ _ _ _ rfl (by decide) (by decide)) <|
  Chain.cons (stepAt_ternary 1101 _ _ _ _ _ rfl (by decide) (by decide) (by decide)) <|
  Chain.cons (stepAt_nullary 1102 _ _ rfl) <|
  Chain.cons (stepAt_unary 1103 _ _ _ rfl (by decide)) <|
  Chain.cons (stepAt_binary 1104 _ _ _ _ rfl (by decide) (by decide)) <|
  Chain.cons (stepAt_nullary 1105 _ _ rfl) <|
  Chain.cons (stepAt_unary 1106 _ _ _ rfl (by decide)) <|
  Chain.cons (stepAt_binary 1107 _ _ _ _ rfl (by decide) (by decide)) <|
  Chain.nil
theorem w15_length : (w15 : List (HloOp τ sig (Elt F))).length = 80 := rfl

end Cert.ReferenceIdeal.Ops

end
-- ==== Proof.SimB2.lean ====
/- Operations 409 … 595 of the one program and 410 … 596 of the other apply the same functions to corresponding
   buffers. If both programs' final contents satisfy their own lines' equations and agree on the buffers these operations
   read from outside, they agree on what these operations write: one congruence per operation, in program order. -/
import proofs.«133805_j10187662426200_2_alg».proof.Proof.KIStretch0
import proofs.«133805_j10187662426200_2_alg».proof.Proof.RefOps0
import proofs.«133805_j10187662426200_2_alg».proof.Proof.RefOps1
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B2 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_16 : List (HloOp Cert.KernelIdeal.τ Cert.KernelIdeal.sig (Elt F))).Forall fun op => ∀ b ∈ op.writes, Φ₁ b = op.result Φ₁ b)
    (fa1 : (Cert.KernelIdeal.Gen.hostOps0_17 : List (HloOp Cert.KernelIdeal.τ Cert.KernelIdeal.sig (Elt F))).Forall fun op => ∀ b ∈ op.writes, Φ₁ b = op.result Φ₁ b)
    (fa2 : (Cert.KernelIdeal.Gen.hostOps0_18 : List (HloOp Cert.KernelIdeal.τ Cert.KernelIdeal.sig (Elt F))).Forall fun op => ∀ b ∈ op.writes, Φ₁ b = op.result Φ₁ b)
    (fa3 : (Cert.KernelIdeal.Gen.hostOps0_19 : List (HloOp Cert.KernelIdeal.τ Cert.KernelIdeal.sig (Elt F))).Forall fun op => ∀ b ∈ op.writes, Φ₁ b = op.result Φ₁ b)
    (fa4 : (Cert.KernelIdeal.Gen.hostOps0_20 : List (HloOp Cert.KernelIdeal.τ Cert.KernelIdeal.sig (Elt F))).Forall fun op => ∀ b ∈ op.writes, Φ₁ b = op.result Φ₁ b)
    (fa5 : (Cert.KernelIdeal.Gen.hostOps0_21 : List (HloOp Cert.KernelIdeal.τ Cert.KernelIdeal.sig (Elt F))).Forall fun op => ∀ b ∈ op.writes, Φ₁ b = op.result Φ₁ b)
    (fa6 : (Cert.KernelIdeal.Gen.hostOps0_22 : List (HloOp Cert.KernelIdeal.τ Cert.KernelIdeal.sig (Elt F))).Forall fun op => ∀ b ∈ op.writes, Φ₁ b = op.result Φ₁ b)
    (fa7 : (Cert.KernelIdeal.Gen.hostOps0_23 : List (HloOp Cert.KernelIdeal.τ Cert.KernelIdeal.sig (Elt F))).Forall fun op => ∀ b ∈ op.writes, Φ₁ b = op.result Φ₁ b)
    (fa8 : (Cert.KernelIdeal.Gen.hostOps0_24 : List (HloOp Cert.KernelIdeal.τ Cert.KernelIdeal.sig (Elt F))).Forall fun op => ∀ b ∈ op.writes, Φ₁ b = op.result Φ₁ b)
    (fb0 : (Cert.ReferenceIdeal.Ops.w6 : List (HloOp Cert.ReferenceIdeal.τ Cert.ReferenceIdeal.sig (Elt F))).Forall fun op => ∀ b ∈ op.writes, Φ₂ b = op.result Φ₂ b)
    (fb1 : (Cert.ReferenceIdeal.Ops.w7 : List (HloOp Cert.ReferenceIdeal.τ Cert.ReferenceIdeal.sig (Elt F))).Forall fun op => ∀ b ∈ op.writes, Φ₂ b = op.result Φ₂ b)
    (fb2 : (Cert.ReferenceIdeal.Ops.w8 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_1)) (Φ₂ (Proc.devRef .tc Cert.ReferenceIdeal.main_c_1)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x64, .f32⟩ : BufTy).Contents (Elt F)) (Φ₁ (Proc.devRef .tc Cert.KernelIdeal.main_arg4)) (Φ₂ (Proc.devRef .tc Cert.ReferenceIdeal.main_arg4)))
    : @Eq ((⟨Cert.KernelIdeal.S131072x32, .f32⟩ : BufTy).Contents (Elt F)) (Φ₁ (Proc.devRef .tc Cert.KernelIdeal.main_v395)) (Φ₂ (Proc.devRef .tc Cert.ReferenceIdeal.main_v396)) := by
  have e0 : @Eq ((⟨Cert.KernelIdeal.S_, .i32⟩ : BufTy).Contents (Elt F)) (Φ₁ (Proc.devRef .tc Cert.KernelIdeal.main_c_100)) (Φ₂ (Proc.devRef .tc Cert.ReferenceIdeal.main_c_100)) := step0 (β := ((⟨Cert.KernelIdeal.S_, .i32⟩ : BufTy).Contents (Elt F))) (eq0 (at_ fa0 (i := 112) rfl) :) (eq0 (at_ fb0 (i := 10) rfl) :)
  have e1 : @Eq ((⟨Cert.KernelIdeal.S2, .i32⟩ : BufTy).Contents (Elt F)) (Φ₁ (Proc.devRef .tc Cert.KernelIdeal.main_v267)) (Φ₂ (Proc.devRef .tc Cert.ReferenceIdeal.main_v268)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 11) rfl) :) e0
  have e2 : @Eq ((⟨Cert.KernelIdeal.S2, .i1⟩ : BufTy).Contents (Elt F)) (Φ₁ (Proc.devRef .tc Cert.KernelIdeal.main_v268)) (Φ₂ (Proc.devRef .tc Cert.ReferenceIdeal.main_v269)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 12) rfl) :) x0 e1
  have e3 : @Eq ((⟨Cert.KernelIdeal.S_, .i32⟩ : BufTy).Contents (Elt F)) (Φ₁ (Proc.devRef .tc Cert.KernelIdeal.main_c_101)) (Φ₂ (Proc.devRef .tc Cert.ReferenceIdeal.main_c_101)) := step0 (β := ((⟨Cert.KernelIdeal.S_, .i32⟩ : BufTy).Contents (Elt F))) (eq0 (at_ fa0 (i := 115) rfl) :) (eq0 (at_ fb0 (i := 13) rfl) :)
  have e4 : @Eq ((⟨Cert.KernelIdeal.S2, .i32⟩ : BufTy).Contents (Elt F)) (Φ₁ (Proc.devRef .tc Cert.KernelIdeal.main_v269)) (Φ₂ (Proc.devRef .tc Cert.ReferenceIdeal.main_v270)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 14) rfl) :) e3
  have e5 : @Eq ((⟨Cert.KernelIdeal.S2, .i32⟩ : BufTy).Contents (Elt F)) (Φ₁ (Proc.devRef .tc Cert.KernelIdeal.main_v270)) (Φ₂ (Proc.devRef .tc Cert.ReferenceIdeal.main_v271)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 15) rfl) :) x0 e4
  have e6 : @Eq ((⟨Cert.KernelIdeal.S2, .i32⟩ : BufTy).Contents (Elt F)) (Φ₁ (Proc.devRef .tc Cert.KernelIdeal.main_v271)) (Φ₂ (Proc.devRef .tc Cert.ReferenceIdeal.main_v272)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 16) rfl) :) e2 e5 x0
  have e7 : @Eq ((⟨Cert.KernelIdeal.S2x1, .i32⟩ : BufTy).Contents (Elt F)) (Φ₁ (Proc.devRef .tc Cert.KernelIdeal.main_v272)) (Φ₂ (Proc.devRef .tc Cert.ReferenceIdeal.main_v273)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 17) rfl) :) e6
  have e8 : @Eq ((⟨Cert.KernelIdeal.S131072x2, .f32⟩ : BufTy).Contents (Elt F)) (Φ₁ (Proc.devRef .tc Cert.KernelIdeal.main_v273)) (Φ₂ (Proc.devRef .tc Cert.ReferenceIdeal.main_v274)) := by rw [eq2 (at_ fa0 (i := 120) rfl), eq2 (at_ fb0 (i := 18) rfl), x1, e7] <;> rfl
  have e9 : @Eq ((⟨Cert.KernelIdeal.S131072x1, .f32⟩ : BufTy).Contents (Elt F)) (Φ₁ (Proc.devRef .tc Cert.KernelIdeal.main_v274)) (Φ₂ (Proc.devRef .tc Cert.ReferenceIdeal.main_v275)) := by rw [eq1 (at_ fa0 (i := 121) rfl), eq1 (at_ fb0 (i := 19) rfl), e8] <;> rfl
  have e10 : @Eq ((⟨Cert.KernelIdeal.S131072, .f32⟩ : BufTy).Contents (Elt F)) (Φ₁ (Proc.devRef .tc Cert.KernelIdeal.main_v275)) (Φ₂ (Proc.devRef .tc Cert.ReferenceIdeal.main_v276)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 20) rfl) :) e9
  have e11 : @Eq ((⟨Cert.KernelIdeal.S_, .f32⟩ : BufTy).Contents (Elt F)) (Φ₁ (Proc.devRef .tc Cert.KernelIdeal.main_cst_102)) (Φ₂ (Proc.devRef .tc Cert.ReferenceIdeal.main_cst_102)) := step0 (β := ((⟨Cert.KernelIdeal.S_, .f32⟩ : BufTy).Contents (Elt F))) (eq0 (at_ fa0 (i := 123) rfl) :) (eq0 (at_ fb0 (i := 21) rfl) :)
  have e12 : @Eq ((⟨Cert.KernelIdeal.S131072, .f32⟩ : BufTy).Contents (Elt F)) (Φ₁ (Proc.devRef .tc Cert.KernelIdeal.main_v276)) (Φ₂ (Proc.devRef .tc Cert.ReferenceIdeal.main_v277)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 22) rfl) :) e11
  have e13 : @Eq ((⟨Cert.KernelIdeal.S131072, .f32⟩ : BufTy).Contents (Elt F)) (Φ₁ (Proc.devRef .tc Cert.KernelIdeal.main_v277)) (Φ₂ (Proc.devRef .tc Cert.ReferenceIdeal.main_v278)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 23) rfl) :) e10 e12
  have e14 : @Eq ((⟨Cert.KernelIdeal.S_, .f32⟩ : BufTy).Contents (Elt F)) (Φ₁ (Proc.devRef .tc Cert.KernelIdeal.main_cst_103)) (Φ₂ (Proc.devRef .tc Cert.ReferenceIdeal.main_cst_103)) := step0 (β := ((⟨Cert.KernelIdeal.S_, .f32⟩ : BufTy).Contents (Elt F))) (eq0 (at_ fa0 (i := 126) rfl) :) (eq0 (at_ fb0 (i := 24) rfl) :)
  have e15 : @Eq ((⟨Cert.KernelIdeal.S131072, .f32⟩ : BufTy).Contents (Elt F)) (Φ₁ (Proc.devRef .tc Cert.KernelIdeal.main_v278)) (Φ₂ (Proc.devRef .tc Cert.ReferenceIdeal.main_v279)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 25) rfl) :) e14
  have e16 : @Eq ((⟨Cert.KernelIdeal.S131072, .f32⟩ : BufTy).Contents (Elt F)) (Φ₁ (Proc.devRef .tc Cert.KernelIdeal.main_v279)) (Φ₂ (Proc.devRef .tc Cert.ReferenceIdeal.main_v280)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 26) rfl) :) e13 e15
  have e17 : @Eq ((⟨Cert.KernelIdeal.S_, .f32⟩ : BufTy).Contents (Elt F)) (Φ₁ (Proc.devRef .tc Cert.KernelIdeal.main_cst_104)) (Φ₂ (Proc.devRef .tc Cert.ReferenceIdeal.main_cst_104)) := step0 (β := ((⟨Cert.KernelIdeal.S_, .f32⟩ : BufTy).Contents (Elt F))) (eq0 (at_ fa0 (i := 129) rfl) :) (eq0 (at_ fb0 (i := 27) rfl) :)
  have e18 : @Eq ((⟨Cert.KernelIdeal.S131072, .f32⟩ : BufTy).Contents (Elt F)) (Φ₁ (Proc.devRef .tc Cert.KernelIdeal.main_v280)) (Φ₂ (Proc.devRef .tc Cert.ReferenceIdeal.main_v281)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 28) rfl) :) e17
  have e19 : @Eq ((⟨Cert.KernelIdeal.S131072, .f32⟩ : BufTy).Contents (Elt F)) (Φ₁ (Proc.devRef .tc Cert.KernelIdeal.main_v281)) (Φ₂ (Proc.devRef .tc Cert.ReferenceIdeal.main_v282)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 29) rfl) :) e16 e18
  have e20 : @Eq ((⟨Cert.KernelIdeal.S131072x1, .f32⟩ : BufTy).Contents (Elt F)) (Φ₁ (Proc.devRef .tc Cert.KernelIdeal.main_v282)) (Φ₂ (Proc.devRef .tc Cert.ReferenceIdeal.main_v283)) := by rw [eq1 (at_ fa0 (i := 132) rfl), eq1 (at_ fb0 (i := 30) rfl), e8] <;> rfl
  have e21 : @Eq ((⟨Cert.KernelIdeal.S131072, .f32⟩ : BufTy).Contents (Elt F)) (Φ₁ (Proc.devRef .tc Cert.KernelIdeal.main_v283)) (Φ₂ (Proc.devRef .tc Cert.ReferenceIdeal.main_v284)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 31) rfl) :) e20
  have e22 : @Eq ((⟨Cert.KernelIdeal.S_, .f32⟩ : BufTy).Contents (Elt F)) (Φ₁ (Proc.devRef .tc Cert.KernelIdeal.main_cst_105)) (Φ₂ (Proc.devRef .tc Cert.ReferenceIdeal.main_cst_105)) := step0 (β := ((⟨Cert.KernelIdeal.S_, .f32⟩ : BufTy).Contents (Elt F))) (eq0 (at_ fa0 (i := 134) rfl) :) (eq0 (at_ fb0 (i := 32) rfl) :)
  have e23 : @Eq ((⟨Cert.KernelIdeal.S131072, .f32⟩ : BufTy).Contents (Elt F)) (Φ₁ (Proc.devRef .tc Cert.KernelIdeal.main_v284)) (Φ₂ (Proc.devRef .tc Cert.ReferenceIdeal.main_v285)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 33) rfl) :) e22
  have e24 : @Eq ((⟨Cert.KernelIdeal.S131072, .f32⟩ : BufTy).Contents (Elt F)) (Φ₁ (Proc.devRef .tc Cert.KernelIdeal.main_v285)) (Φ₂ (Proc.devRef .tc Cert.ReferenceIdeal.main_v286)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 34) rfl) :) e21 e23
  have e25 : @Eq ((⟨Cert.KernelIdeal.S_, .f32⟩ : BufTy).Contents (Elt F)) (Φ₁ (Proc.devRef .tc Cert.KernelIdeal.main_cst_106)) (Φ₂ (Proc.devRef .tc Cert.ReferenceIdeal.main_cst_106)) := step0 (β := ((⟨Cert.KernelIdeal.S_, .f32⟩ : BufTy).Contents (Elt F))) (eq0 (at_ fa0 (i := 137) rfl) :) (eq0 (at_ fb0 (i := 35) rfl) :)
  have e26 : @Eq ((⟨Cert.KernelIdeal.S131072, .f32⟩ : BufTy).Contents (Elt F)) (Φ₁ (Proc.devRef .tc Cert.KernelIdeal.main_v286)) (Φ₂ (Proc.devRef .tc Cert.ReferenceIdeal.main_v287)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 36) rfl) :) e25
  have e27 : @Eq ((⟨Cert.KernelIdeal.S131072, .f32⟩ : BufTy).Contents (Elt F)) (Φ₁ (Proc.devRef .tc Cert.KernelIdeal.main_v287)) (Φ₂ (Proc.devRef .tc Cert.ReferenceIdeal.main_v288)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 37) rfl) :) e24 e26
  have e28 : @Eq ((⟨Cert.KernelIdeal.S_, .f32⟩ : BufTy).Contents (Elt F)) (Φ₁ (Proc.devRef .tc Cert.KernelIdeal.main_cst_107)) (Φ₂ (Proc.devRef .tc Cert.ReferenceIdeal.main_cst_107)) := step0 (β := ((⟨Cert.KernelIdeal.S_, .f32⟩ : BufTy).Contents (Elt F))) (eq0 (at_ fa0 (i := 140) rfl) :) (eq0 (at_ fb0 (i := 38) rfl) :)
  have e29 : @Eq ((⟨Cert.KernelIdeal.S131072, .f32⟩ : BufTy).Contents (Elt F)) (Φ₁ (Proc.devRef .tc Cert.KernelIdeal.main_v288)) (Φ₂ (Proc.devRef .tc Cert.ReferenceIdeal.main_v289)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 39) rfl) :) e28
  have e30 : @Eq ((⟨Cert.KernelIdeal.S131072, .f32⟩ : BufTy).Contents (Elt F)) (Φ₁ (Proc.devRef .tc Cert.KernelIdeal.main_v289)) (Φ₂ (Proc.devRef .tc Cert.ReferenceIdeal.main_v290)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 40) rfl) :) e27 e29
  have e31 : @Eq ((⟨Cert.KernelIdeal.S131072, .f32⟩ : BufTy).Contents (Elt F)) (Φ₁ (Proc.devRef .tc Cert.KernelIdeal.main_v290)) (Φ₂ (Proc.devRef .tc Cert.ReferenceIdeal.main_v291)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 41) rfl) :) e19
  have e32 : @Eq ((⟨Cert.KernelIdeal.S131072, .f32⟩ : BufTy).Contents (Elt F)) (Φ₁ (Proc.devRef .tc Cert.KernelIdeal.main_v291)) (Φ₂ (Proc.devRef .tc Cert.ReferenceIdeal.main_v292)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 42) rfl) :) e30
  have e33 : @Eq ((⟨Cert.KernelIdeal.S131072, .f32⟩ : BufTy).Contents (Elt F)) (Φ₁ (Proc.devRef .tc Cert.KernelIdeal.main_v292)) (Φ₂ (Proc.devRef .tc Cert.ReferenceIdeal.main_v293)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 43) rfl) :) e19 e31
  have e34 : @Eq ((⟨Cert.KernelIdeal.S131072, .f32⟩ : BufTy).Contents (Elt F)) (Φ₁ (Proc.devRef .tc Cert.KernelIdeal.main_v293)) (Φ₂ (Proc.devRef .tc Cert.ReferenceIdeal.main_v294)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 44) rfl) :) e30 e32
  have e35 : @Eq ((⟨Cert.KernelIdeal.S131072, .i32⟩ : BufTy).Contents (Elt F)) (Φ₁ (Proc.devRef .tc Cert.KernelIdeal.main_v294)) (Φ₂ (Proc.devRef .tc Cert.ReferenceIdeal.main_v295)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 45) rfl) :) e31
  have e36 : @Eq ((⟨Cert.KernelIdeal.S_, .i32⟩ : BufTy).Contents (Elt F)) (Φ₁ (Proc.devRef .tc Cert.KernelIdeal.main_c_108)) (Φ₂ (Proc.devRef .tc Cert.ReferenceIdeal.main_c_108)) := step0 (β := ((⟨Cert.KernelIdeal.S_, .i32⟩ : BufTy).Contents (Elt F))) (eq0 (at_ fa0 (i := 148) rfl) :) (eq0 (at_ fb0 (i := 46) rfl) :)
  have e37 : @Eq ((⟨Cert.KernelIdeal.S_, .i32⟩ : BufTy).Contents (Elt F)) (Φ₁ (Proc.devRef .tc Cert.KernelIdeal.main_c_109)) (Φ₂ (Proc.devRef .tc Cert.ReferenceIdeal.main_c_109)) := step0 (β := ((⟨Cert.KernelIdeal.S_, .i32⟩ : BufTy).Contents (Elt F))) (eq0 (at_ fa0 (i := 149) rfl) :) (eq0 (at_ fb0 (i := 47) rfl) :)
  have e38 : @Eq ((⟨Cert.KernelIdeal.S_, .i32⟩ : BufTy).Contents (Elt F)) (Φ₁ (Proc.devRef .tc Cert.KernelIdeal.main_call8_v0)) (Φ₂ (Proc.devRef .tc Cert.ReferenceIdeal.main_call8_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 48) rfl) :) e36
  have e39 : @Eq ((⟨Cert.KernelIdeal.S131072, .i32⟩ : BufTy).Contents (Elt F)) (Φ₁ (Proc.devRef .tc Cert.KernelIdeal.main_call8_v1)) (Φ₂ (Proc.devRef .tc Cert.ReferenceIdeal.main_call8_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 49) rfl) :) e38
  have e40 : @Eq ((⟨Cert.KernelIdeal.S131072, .i32⟩ : BufTy).Contents (Elt F)) (Φ₁ (Proc.devRef .tc Cert.KernelIdeal.main_call8_v2)) (Φ₂ (Proc.devRef .tc Cert.ReferenceIdeal.main_call8_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 50) rfl) :) e39 e35
  have e41 : @Eq ((⟨Cert.KernelIdeal.S_, .i32⟩ : BufTy).Contents (Elt F)) (Φ₁ (Proc.devRef .tc Cert.KernelIdeal.main_call8_v3)) (Φ₂ (Proc.devRef .tc Cert.ReferenceIdeal.main_call8_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 51) rfl) :) e37
  have e42 : @Eq ((⟨Cert.KernelIdeal.S131072, .i32⟩ : BufTy).Contents (Elt F)) (Φ₁ (Proc.devRef .tc Cert.KernelIdeal.main_call8_v4)) (Φ₂ (Proc.devRef .tc Cert.ReferenceIdeal.main_call8_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 52) rfl) :) e41
  have e43 : @Eq ((⟨Cert.KernelIdeal.S131072, .i32⟩ : BufTy).Contents (Elt F)) (Φ₁ (Proc.devRef .tc Cert.KernelIdeal.main_v295)) (Φ₂ (Proc.devRef .tc Cert.ReferenceIdeal.main_v296)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 53) rfl) :) e42 e40
  have e44 : @Eq ((⟨Cert.KernelIdeal.S_, .i32⟩ : BufTy).Contents (Elt F)) (Φ₁ (Proc.devRef .tc Cert.KernelIdeal.main_c_110)) (Φ₂ (Proc.devRef .tc Cert.ReferenceIdeal.main_c_110)) := step0 (β := ((⟨Cert.KernelIdeal.S_, .i32⟩ : BufTy).Contents (Elt F))) (eq0 (at_ fa2 (i := 0) rfl) :) (eq0 (at_ fb0 (i := 54) rfl) :)
  have e45 : @Eq ((⟨Cert.KernelIdeal.S131072, .i32⟩ : BufTy).Contents (Elt F)) (Φ₁ (Proc.devRef .tc Cert.KernelIdeal.main_v296)) (Φ₂ (Proc.devRef .tc Cert.ReferenceIdeal.main_v297)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb0 (i := 55) rfl) :) e44
  have e46 : @Eq ((⟨Cert.KernelIdeal.S131072, .i32⟩ : BufTy).Contents (Elt F)) (Φ₁ (Proc.devRef .tc Cert.KernelIdeal.main_v297)) (Φ₂ (Proc.devRef .tc Cert.ReferenceIdeal.main_v298)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb0 (i := 56) rfl) :) e43 e45
  have e47 : @Eq ((⟨Cert.KernelIdeal.S_, .i32⟩ : BufTy).Contents (Elt F)) (Φ₁ (Proc.devRef .tc Cert.KernelIdeal.main_c_111)) (Φ₂ (Proc.devRef .tc Cert.ReferenceIdeal.main_c_111)) := step0 (β := ((⟨Cert.KernelIdeal.S_, .i32⟩ : BufTy).Contents (Elt F))) (eq0 (at_ fa2 (i := 3) rfl) :) (eq0 (at_ fb0 (i := 57) rfl) :)
  have e48 : @Eq ((⟨Cert.KernelIdeal.S_, .i32⟩ : BufTy).Contents (Elt F)) (Φ₁ (Proc.devRef .tc Cert.KernelIdeal.main_c_112)) (Φ₂ (Proc.devRef .tc Cert.ReferenceIdeal.main_c_112)) := step0 (β := ((⟨Cert.KernelIdeal.S_, .i32⟩ : BufTy).Contents (Elt F))) (eq0 (at_ fa2 (i := 4) rfl) :) (eq0 (at_ fb0 (i := 58) rfl) :)
  have e49 : @Eq ((⟨Cert.KernelIdeal.S_, .i32⟩ : BufTy).Contents (Elt F)) (Φ₁ (Proc.devRef .tc Cert.KernelIdeal.main_call9_v0)) (Φ₂ (Proc.devRef .tc Cert.ReferenceIdeal.main_call9_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb0 (i := 59) rfl) :) e47
  have e50 : @Eq ((⟨Cert.KernelIdeal.S131072, .i32⟩ : BufTy).Contents (Elt F)) (Φ₁ (Proc.devRef .tc Cert.KernelIdeal.main_call9_v1)) (Φ₂ (Proc.devRef .tc Cert.ReferenceIdeal.main_call9_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb0 (i := 60) rfl) :) e49
  have e51 : @Eq ((⟨Cert.KernelIdeal.S131072, .i32⟩ : BufTy).Contents (Elt F)) (Φ₁ (Proc.devRef .tc Cert.KernelIdeal.main_call9_v2)) (Φ₂ (Proc.devRef .tc Cert.ReferenceIdeal.main_call9_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb0 (i := 61) rfl) :) e50 e46
  have e52 : @Eq ((⟨Cert.KernelIdeal.S_, .i32⟩ : BufTy).Contents (Elt F)) (Φ₁ (Proc.devRef .tc Cert.KernelIdeal.main_call9_v3)) (Φ₂ (Proc.devRef .tc Cert.ReferenceIdeal.main_call9_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb0 (i := 62) rfl) :) e48
  have e53 : @Eq ((⟨Cert.KernelIdeal.S131072, .i32⟩ : BufTy).Contents (Elt F)) (Φ₁ (Proc.devRef .tc Cert.KernelIdeal.main_call9_v4)) (Φ₂ (Proc.devRef .tc Cert.ReferenceIdeal.main_call9_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb0 (i := 63) rfl) :) e52
  have e54 : @Eq ((⟨Cert.KernelIdeal.S131072, .i32⟩ : BufTy).Contents (Elt F)) (Φ₁ (Proc.devRef .tc Cert.KernelIdeal.main_v298)) (Φ₂ (Proc.devRef .tc Cert.ReferenceIdeal.main_v299)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb0 (i := 64) rfl) :) e53 e51
  have e55 : @Eq ((⟨Cert.KernelIdeal.S131072, .i32⟩ : BufTy).Contents (Elt F)) (Φ₁ (Proc.devRef .tc Cert.KernelIdeal.main_v299)) (Φ₂ (Proc.devRef .tc Cert.ReferenceIdeal.main_v300)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb0 (i := 65) rfl) :) e32
  have e56 : @Eq ((⟨Cert.KernelIdeal.S_, .i32⟩ : BufTy).Contents (Elt F)) (Φ₁ (Proc.devRef .tc Cert.KernelIdeal.main_c_113)) (Φ₂ (Proc.devRef .tc Cert.ReferenceIdeal.main_c_113)) := step0 (β := ((⟨Cert.KernelIdeal.S_, .i32⟩ : BufTy).Contents (Elt F))) (eq0 (at_ fa4 (i := 1) rfl) :) (eq0 (at_ fb0 (i := 66) rfl) :)
  have e57 : @Eq ((⟨Cert.KernelIdeal.S_, .i32⟩ : BufTy).Contents (Elt F)) (Φ₁ (Proc.devRef .tc Cert.KernelIdeal.main_c_114)) (Φ₂ (Proc.devRef .tc Cert.ReferenceIdeal.main_c_114)) := step0 (β := ((⟨Cert.KernelIdeal.S_, .i32⟩ : BufTy).Contents (Elt F))) (eq0 (at_ fa4 (i := 2) rfl) :) (eq0 (at_ fb0 (i := 67) rfl) :)
  have e58 : @Eq ((⟨Cert.KernelIdeal.S_, .i32⟩ : BufTy).Contents (Elt F)) (Φ₁ (Proc.devRef .tc Cert.KernelIdeal.main_call10_v0)) (Φ₂ (Proc.devRef .tc Cert.ReferenceIdeal.main_call10_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb0 (i := 68) rfl) :) e56
  have e59 : @Eq ((⟨Cert.KernelIdeal.S131072, .i32⟩ : BufTy).Contents (Elt F)) (Φ₁ (Proc.devRef .tc Cert.KernelIdeal.main_call10_v1)) (Φ₂ (Proc.devRef .tc Cert.ReferenceIdeal.main_call10_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb0 (i := 69) rfl) :) e58
  have e60 : @Eq ((⟨Cert.KernelIdeal.S131072, .i32⟩ : BufTy).Contents (Elt F)) (Φ₁ (Proc.devRef .tc Cert.KernelIdeal.main_call10_v2)) (Φ₂ (Proc.devRef .tc Cert.ReferenceIdeal.main_call10_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb0 (i := 70) rfl) :) e59 e55
  have e61 : @Eq ((⟨Cert.KernelIdeal.S_, .i32⟩ : BufTy).Contents (Elt F)) (Φ₁ (Proc.devRef .tc Cert.KernelIdeal.main_call10_v3)) (Φ₂ (Proc.devRef .tc Cert.ReferenceIdeal.main_call10_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb0 (i := 71) rfl) :) e57
  have e62 : @Eq ((⟨Cert.KernelIdeal.S131072, .i32⟩ : BufTy).Contents (Elt F)) (Φ₁ (Proc.devRef .tc Cert.KernelIdeal.main_call10_v4)) (Φ₂ (Proc.devRef .tc Cert.ReferenceIdeal.main_call10_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb0 (i := 72) rfl) :) e61
  have e63 : @Eq ((⟨Cert.KernelIdeal.S131072, .i32⟩ : BufTy).Contents (Elt F)) (Φ₁ (Proc.devRef .tc Cert.KernelIdeal.main_v300)) (Φ₂ (Proc.devRef .tc Cert.ReferenceIdeal.main_v301)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb0 (i := 73) rfl) :) e62 e60
  have e64 : @Eq ((⟨Cert.KernelIdeal.S_, .i32⟩ : BufTy).Contents (Elt F)) (Φ₁ (Proc.devRef .tc Cert.KernelIdeal.main_c_115)) (Φ₂ (Proc.devRef .tc Cert.ReferenceIdeal.main_c_115)) := step0 (β := ((⟨Cert.KernelIdeal.S_, .i32⟩ : BufTy).Contents (Elt F))) (eq0 (at_ fa6 (i := 0) rfl) :) (eq0 (at_ fb0 (i := 74) rfl) :)
  have e65 : @Eq ((⟨Cert.KernelIdeal.S131072, .i32⟩ : BufTy).Contents (Elt F)) (Φ₁ (Proc.devRef .tc Cert.KernelIdeal.main_v301)) (Φ₂ (Proc.devRef .tc Cert.ReferenceIdeal.main_v302)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 0) rfl) :) e64
  have e66 : @Eq ((⟨Cert.KernelIdeal.S131072, .i32⟩ : BufTy).Contents (Elt F)) (Φ₁ (Proc.devRef .tc Cert.KernelIdeal.main_v302)) (Φ₂ (Proc.devRef .tc Cert.ReferenceIdeal.main_v303)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 1) rfl) :) e63 e65
  have e67 : @Eq ((⟨Cert.KernelIdeal.S_, .i32⟩ : BufTy).Contents (Elt F)) (Φ₁ (Proc.devRef .tc Cert.KernelIdeal.main_c_116)) (Φ₂ (Proc.devRef .tc Cert.ReferenceIdeal.main_c_116)) := step0 (β := ((⟨Cert.KernelIdeal.S_, .i32⟩ : BufTy).Contents (Elt F))) (eq0 (at_ fa6 (i := 3) rfl) :) (eq0 (at_ fb1 (i := 2) rfl) :)
  have e68 : @Eq ((⟨Cert.KernelIdeal.S_, .i32⟩ : BufTy).Contents (Elt F)) (Φ₁ (Proc.devRef .tc Cert.KernelIdeal.main_c_117)) (Φ₂ (Proc.devRef .tc Cert.ReferenceIdeal.main_c_117)) := step0 (β := ((⟨Cert.KernelIdeal.S_, .i32⟩ : BufTy).Contents (Elt F))) (eq0 (at_ fa6 (i := 4) rfl) :) (eq0 (at_ fb1 (i := 3) rfl) :)
  have e69 : @Eq ((⟨Cert.KernelIdeal.S_, .i32⟩ : BufTy).Contents (Elt F)) (Φ₁ (Proc.devRef .tc Cert.KernelIdeal.main_call11_v0)) (Φ₂ (Proc.devRef .tc Cert.ReferenceIdeal.main_call11_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 4) rfl) :) e67
  have e70 : @Eq ((⟨Cert.KernelIdeal.S131072, .i32⟩ : BufTy).Contents (Elt F)) (Φ₁ (Proc.devRef .tc Cert.KernelIdeal.main_call11_v1)) (Φ₂ (Proc.devRef .tc Cert.ReferenceIdeal.main_call11_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 5) rfl) :) e69
  have e71 : @Eq ((⟨Cert.KernelIdeal.S131072, .i32⟩ : BufTy).Contents (Elt F)) (Φ₁ (Proc.devRef .tc Cert.KernelIdeal.main_call11_v2)) (Φ₂ (Proc.devRef .tc Cert.ReferenceIdeal.main_call11_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 6) rfl) :) e70 e66
  have e72 : @Eq ((⟨Cert.KernelIdeal.S_, .i32⟩ : BufTy).Contents (Elt F)) (Φ₁ (Proc.devRef .tc Cert.KernelIdeal.main_call11_v3)) (Φ₂ (Proc.devRef .tc Cert.ReferenceIdeal.main_call11_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 7) rfl) :) e68
  have e73 : @Eq ((⟨Cert.KernelIdeal.S131072, .i32⟩ : BufTy).Contents (Elt F)) (Φ₁ (Proc.devRef .tc Cert.KernelIdeal.main_call11_v4)) (Φ₂ (Proc.devRef .tc Cert.ReferenceIdeal.main_call11_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 8) rfl) :) e72
  have e74 : @Eq ((⟨Cert.KernelIdeal.S131072, .i32⟩ : BufTy).Contents (Elt F)) (Φ₁ (Proc.devRef .tc Cert.KernelIdeal.main_v303)) (Φ₂ (Proc.devRef .tc Cert.ReferenceIdeal.main_v304)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 9) rfl) :) e73 e71
  have e75 : @Eq ((⟨Cert.KernelIdeal.S_, .i32⟩ : BufTy).Contents (Elt F)) (Φ₁ (Proc.devRef .tc Cert.KernelIdeal.main_c_118)) (Φ₂ (Proc.devRef .tc Cert.ReferenceIdeal.main_c_118)) := step0 (β := ((⟨Cert.KernelIdeal.S_, .i32⟩ : BufTy).Contents (Elt F))) (eq0 (at_ fa8 (i := 0) rfl) :) (eq0 (at_ fb1 (i := 10) rfl) :)
  have e76 : @Eq ((⟨Cert.KernelIdeal.S131072, .i32⟩ : BufTy).Contents (Elt F)) (Φ₁ (Proc.devRef .tc Cert.KernelIdeal.main_v304)) (Φ₂ (Proc.devRef .tc Cert.ReferenceIdeal.main_v305)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 11) rfl) :) e75
  have e77 : @Eq ((⟨Cert.KernelIdeal.S131072, .i1⟩ : BufTy).Contents (Elt F)) (Φ₁ (Proc.devRef .tc Cert.KernelIdeal.main_v305)) (Φ₂ (Proc.devRef .tc Cert.ReferenceIdeal.main_v306)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 12) rfl) :) e63 e76
  have e78 : @Eq ((⟨Cert.KernelIdeal.S_, .i32⟩ : BufTy).Contents (Elt F)) (Φ₁ (Proc.devRef .tc Cert.KernelIdeal.main_c_119)) (Φ₂ (Proc.devRef .tc Cert.ReferenceIdeal.main_c_119)) := step0 (β := ((⟨Cert.KernelIdeal.S_, .i32⟩ : BufTy).Contents (Elt F))) (eq0 (at_ fa8 (i := 3) rfl) :) (eq0 (at_ fb1 (i := 13) rfl) :)
  have e79 : @Eq ((⟨Cert.KernelIdeal.S131072, .i32⟩ : BufTy).Contents (Elt F)) (Φ₁ (Proc.devRef .tc Cert.KernelIdeal.main_v306)) (Φ₂ (Proc.devRef .tc Cert.ReferenceIdeal.main_v307)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 14) rfl) :) e78
  have e80 : @Eq ((⟨Cert.KernelIdeal.S131072, .i32⟩ : BufTy).Contents (Elt F)) (Φ₁ (Proc.devRef .tc Cert.KernelIdeal.main_v307)) (Φ₂ (Proc.devRef .tc Cert.ReferenceIdeal.main_v308)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 15) rfl) :) e63 e79
  have e81 : @Eq ((⟨Cert.KernelIdeal.S131072, .i32⟩ : BufTy).Contents (Elt F)) (Φ₁ (Proc.devRef .tc Cert.KernelIdeal.main_v308)) (Φ₂ (Proc.devRef .tc Cert.ReferenceIdeal.main_v309)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 16) rfl) :) e77 e80 e63
  have e82 : @Eq ((⟨Cert.KernelIdeal.S_, .i32⟩ : BufTy).Contents (Elt F)) (Φ₁ (Proc.devRef .tc Cert.KernelIdeal.main_c_120)) (Φ₂ (Proc.devRef .tc Cert.ReferenceIdeal.main_c_120)) := step0 (β := ((⟨Cert.KernelIdeal.S_, .i32⟩ : BufTy).Contents (Elt F))) (eq0 (at_ fa8 (i := 7) rfl) :) (eq0 (at_ fb1 (i := 17) rfl) :)
  have e83 : @Eq ((⟨Cert.KernelIdeal.S131072, .i32⟩ : BufTy).Contents (Elt F)) (Φ₁ (Proc.devRef .tc Cert.KernelIdeal.main_v309)) (Φ₂ (Proc.devRef .tc Cert.ReferenceIdeal.main_v310)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 18) rfl) :) e82
  have e84 : @Eq ((⟨Cert.KernelIdeal.S131072, .i1⟩ : BufTy).Contents (Elt F)) (Φ₁ (Proc.devRef .tc Cert.KernelIdeal.main_v310)) (Φ₂ (Proc.devRef .tc Cert.ReferenceIdeal.main_v311)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 19) rfl) :) e43 e83
  have e85 : @Eq ((⟨Cert.KernelIdeal.S_, .i32⟩ : BufTy).Contents (Elt F)) (Φ₁ (Proc.devRef .tc Cert.KernelIdeal.main_c_121)) (Φ₂ (Proc.devRef .tc Cert.ReferenceIdeal.main_c_121)) := step0 (β := ((⟨Cert.KernelIdeal.S_, .i32⟩ : BufTy).Contents (Elt F))) (eq0 (at_ fa8 (i := 10) rfl) :) (eq0 (at_ fb1 (i := 20) rfl) :)
  have e86 : @Eq ((⟨Cert.KernelIdeal.S131072, .i32⟩ : BufTy).Contents (Elt F)) (Φ₁ (Proc.devRef .tc Cert.KernelIdeal.main_v311)) (Φ₂ (Proc.devRef .tc Cert.ReferenceIdeal.main_v312)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 21) rfl) :) e85
  have e87 : @Eq ((⟨Cert.KernelIdeal.S131072, .i32⟩ : BufTy).Contents (Elt F)) (Φ₁ (Proc.devRef .tc Cert.KernelIdeal.main_v312)) (Φ₂ (Proc.devRef .tc Cert.ReferenceIdeal.main_v313)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 22) rfl) :) e43 e86
  have e88 : @Eq ((⟨Cert.KernelIdeal.S131072, .i32⟩ : BufTy).Contents (Elt F)) (Φ₁ (Proc.devRef .tc Cert.KernelIdeal.main_v313)) (Φ₂ (Proc.devRef .tc Cert.ReferenceIdeal.main_v314)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 23) rfl) :) e84 e87 e43
  have e89 : @Eq ((⟨Cert.KernelIdeal.S131072x1, .i32⟩ : BufTy).Contents (Elt F)) (Φ₁ (Proc.devRef .tc Cert.KernelIdeal.main_v314)) (Φ₂ (Proc.devRef .tc Cert.ReferenceIdeal.main_v315)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 24) rfl) :) e81
  have e90 : @Eq ((⟨Cert.KernelIdeal.S131072x1, .i32⟩ : BufTy).Contents (Elt F)) (Φ₁ (Proc.devRef .tc Cert.KernelIdeal.main_v315)) (Φ₂ (Proc.devRef .tc Cert.ReferenceIdeal.main_v316)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 25) rfl) :) e88
  have e91 : @Eq ((⟨Cert.KernelIdeal.S131072x2, .i32⟩ : BufTy).Contents (Elt F)) (Φ₁ (Proc.devRef .tc Cert.KernelIdeal.main_v316)) (Φ₂ (Proc.devRef .tc Cert.ReferenceIdeal.main_v317)) := by rw [eq2 (at_ fa8 (i := 16) rfl), eq2 (at_ fb1 (i := 26) rfl), e89, e90] <;> rfl
  have e92 : @Eq ((⟨Cert.KernelIdeal.S32x131072, .f32⟩ : BufTy).Contents (Elt F)) (Φ₁ (Proc.devRef .tc Cert.KernelIdeal.main_v317)) (Φ₂ (Proc.devRef .tc Cert.ReferenceIdeal.main_v318)) := by rw [eq2 (at_ fa8 (i := 17) rfl), eq2 (at_ fb1 (i := 27) rfl), x2, e91] <;> rfl
  have e93 : @Eq ((⟨Cert.KernelIdeal.S_, .i32⟩ : BufTy).Contents (Elt F)) (Φ₁ (Proc.devRef .tc Cert.KernelIdeal.main_c_122)) (Φ₂ (Proc.devRef .tc Cert.ReferenceIdeal.main_c_122)) := step0 (β := ((⟨Cert.KernelIdeal.S_, .i32⟩ : BufTy).Contents (Elt F))) (eq0 (at_ fa8 (i := 18) rfl) :) (eq0 (at_ fb1 (i := 28) rfl) :)
  have e94 : @Eq ((⟨Cert.KernelIdeal.S131072, .i32⟩ : BufTy).Contents (Elt F)) (Φ₁ (Proc.devRef .tc Cert.KernelIdeal.main_v318)) (Φ₂ (Proc.devRef .tc Cert.ReferenceIdeal.main_v319)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 29) rfl) :) e93
  have e95 : @Eq ((⟨Cert.KernelIdeal.S131072, .i1⟩ : BufTy).Contents (Elt F)) (Φ₁ (Proc.devRef .tc Cert.KernelIdeal.main_v319)) (Φ₂ (Proc.devRef .tc Cert.ReferenceIdeal.main_v320)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 30) rfl) :) e63 e94
  have e96 : @Eq ((⟨Cert.KernelIdeal.S_, .i32⟩ : BufTy).Contents (Elt F)) (Φ₁ (Proc.devRef .tc Cert.KernelIdeal.main_c_123)) (Φ₂ (Proc.devRef .tc Cert.ReferenceIdeal.main_c_123)) := step0 (β := ((⟨Cert.KernelIdeal.S_, .i32⟩ : BufTy).Contents (Elt F))) (eq0 (at_ fa8 (i := 21) rfl) :) (eq0 (at_ fb1 (i := 31) rfl) :)
  have e97 : @Eq ((⟨Cert.KernelIdeal.S131072, .i32⟩ : BufTy).Contents (Elt F)) (Φ₁ (Proc.devRef .tc Cert.KernelIdeal.main_v320)) (Φ₂ (Proc.devRef .tc Cert.ReferenceIdeal.main_v321)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 32) rfl) :) e96
  have e98 : @Eq ((⟨Cert.KernelIdeal.S131072, .i32⟩ : BufTy).Contents (Elt F)) (Φ₁ (Proc.devRef .tc Cert.KernelIdeal.main_v321)) (Φ₂ (Proc.devRef .tc Cert.ReferenceIdeal.main_v322)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 33) rfl) :) e63 e97
  have e99 : @Eq ((⟨Cert.KernelIdeal.S131072, .i32⟩ : BufTy).Contents (Elt F)) (Φ₁ (Proc.devRef .tc Cert.KernelIdeal.main_v322)) (Φ₂ (Proc.devRef .tc Cert.ReferenceIdeal.main_v323)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 34) rfl) :) e95 e98 e63
  have e100 : @Eq ((⟨Cert.KernelIdeal.S_, .i32⟩ : BufTy).Contents (Elt F)) (Φ₁ (Proc.devRef .tc Cert.KernelIdeal.main_c_124)) (Φ₂ (Proc.devRef .tc Cert.ReferenceIdeal.main_c_124)) := step0 (β := ((⟨Cert.KernelIdeal.S_, .i32⟩ : BufTy).Contents (Elt F))) (eq0 (at_ fa8 (i := 25) rfl) :) (eq0 (at_ fb1 (i := 35) rfl) :)
  have e101 : @Eq ((⟨Cert.KernelIdeal.S131072, .i32⟩ : BufTy).Contents (Elt F)) (Φ₁ (Proc.devRef .tc Cert.KernelIdeal.main_v323)) (Φ₂ (Proc.devRef .tc Cert.ReferenceIdeal.main_v324)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 36) rfl) :) e100
  have e102 : @Eq ((⟨Cert.KernelIdeal.S131072, .i1⟩ : BufTy).Contents (Elt F)) (Φ₁ (Proc.devRef .tc Cert.KernelIdeal.main_v324)) (Φ₂ (Proc.devRef .tc Cert.ReferenceIdeal.main_v325)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 37) rfl) :) e54 e101
  have e103 : @Eq ((⟨Cert.KernelIdeal.S_, .i32⟩ : BufTy).Contents (Elt F)) (Φ₁ (Proc.devRef .tc Cert.KernelIdeal.main_c_125)) (Φ₂ (Proc.devRef .tc Cert.ReferenceIdeal.main_c_125)) := step0 (β := ((⟨Cert.KernelIdeal.S_, .i32⟩ : BufTy).Contents (Elt F))) (eq0 (at_ fa8 (i := 28) rfl) :) (eq0 (at_ fb1 (i := 38) rfl) :)
  have e104 : @Eq ((⟨Cert.KernelIdeal.S131072, .i32⟩ : BufTy).Contents (Elt F)) (Φ₁ (Proc.devRef .tc Cert.KernelIdeal.main_v325)) (Φ₂ (Proc.devRef .tc Cert.ReferenceIdeal.main_v326)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 39) rfl) :) e103
  have e105 : @Eq ((⟨Cert.KernelIdeal.S131072, .i32⟩ : BufTy).Contents (Elt F)) (Φ₁ (Proc.devRef .tc Cert.KernelIdeal.main_v326)) (Φ₂ (Proc.devRef .tc Cert.ReferenceIdeal.main_v327)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 40) rfl) :) e54 e104
  have e106 : @Eq ((⟨Cert.KernelIdeal.S131072, .i32⟩ : BufTy).Contents (Elt F)) (Φ₁ (Proc.devRef .tc Cert.KernelIdeal.main_v327)) (Φ₂ (Proc.devRef .tc Cert.ReferenceIdeal.main_v328)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 41) rfl) :) e102 e105 e54
  have e107 : @Eq ((⟨Cert.KernelIdeal.S131072x1, .i32⟩ : BufTy).Contents (Elt F)) (Φ₁ (Proc.devRef .tc Cert.KernelIdeal.main_v328)) (Φ₂ (Proc.devRef .tc Cert.ReferenceIdeal.main_v329)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 42) rfl) :) e99
  have e108 : @Eq ((⟨Cert.KernelIdeal.S131072x1, .i32⟩ : BufTy).Contents (Elt F)) (Φ₁ (Proc.devRef .tc Cert.KernelIdeal.main_v329)) (Φ₂ (Proc.devRef .tc Cert.ReferenceIdeal.main_v330)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 43) rfl) :) e106
  have e109 : @Eq ((⟨Cert.KernelIdeal.S131072x2, .i32⟩ : BufTy).Contents (Elt F)) (Φ₁ (Proc.devRef .tc Cert.KernelIdeal.main_v330)) (Φ₂ (Proc.devRef .tc Cert.ReferenceIdeal.main_v331)) := by rw [eq2 (at_ fa8 (i := 34) rfl), eq2 (at_ fb1 (i := 44) rfl), e107, e108] <;> rfl
  have e110 : @Eq ((⟨Cert.KernelIdeal.S32x131072, .f32⟩ : BufTy).Contents (Elt F)) (Φ₁ (Proc.devRef .tc Cert.KernelIdeal.main_v331)) (Φ₂ (Proc.devRef .tc Cert.ReferenceIdeal.main_v332)) := by rw [eq2 (at_ fa8 (i := 35) rfl), eq2 (at_ fb1 (i := 45) rfl), x2, e109] <;> rfl
  have e111 : @Eq ((⟨Cert.KernelIdeal.S_, .i32⟩ : BufTy).Contents (Elt F)) (Φ₁ (Proc.devRef .tc Cert.KernelIdeal.main_c_126)) (Φ₂ (Proc.devRef .tc Cert.ReferenceIdeal.main_c_126)) := step0 (β := ((⟨Cert.KernelIdeal.S_, .i32⟩ : BufTy).Contents (Elt F))) (eq0 (at_ fa8 (i := 36) rfl) :) (eq0 (at_ fb1 (i := 46) rfl) :)
  have e112 : @Eq ((⟨Cert.KernelIdeal.S131072, .i32⟩ : BufTy).Contents (Elt F)) (Φ₁ (Proc.devRef .tc Cert.KernelIdeal.main_v332)) (Φ₂ (Proc.devRef .tc Cert.ReferenceIdeal.main_v333)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 47) rfl) :) e111
  have e113 : @Eq ((⟨Cert.KernelIdeal.S131072, .i1⟩ : BufTy).Contents (Elt F)) (Φ₁ (Proc.devRef .tc Cert.KernelIdeal.main_v333)) (Φ₂ (Proc.devRef .tc Cert.ReferenceIdeal.main_v334)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 48) rfl) :) e74 e112
  have e114 : @Eq ((⟨Cert.KernelIdeal.S_, .i32⟩ : BufTy).Contents (Elt F)) (Φ₁ (Proc.devRef .tc Cert.KernelIdeal.main_c_127)) (Φ₂ (Proc.devRef .tc Cert.ReferenceIdeal.main_c_127)) := step0 (β := ((⟨Cert.KernelIdeal.S_, .i32⟩ : BufTy).Contents (Elt F))) (eq0 (at_ fa8 (i := 39) rfl) :) (eq0 (at_ fb1 (i := 49) rfl) :)
  have e115 : @Eq ((⟨Cert.KernelIdeal.S131072, .i32⟩ : BufTy).Contents (Elt F)) (Φ₁ (Proc.devRef .tc Cert.KernelIdeal.main_v334)) (Φ₂ (Proc.devRef .tc Cert.ReferenceIdeal.main_v335)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 50) rfl) :) e114
  have e116 : @Eq ((⟨Cert.KernelIdeal.S131072, .i32⟩ : BufTy).Contents (Elt F)) (Φ₁ (Proc.devRef .tc Cert.KernelIdeal.main_v335)) (Φ₂ (Proc.devRef .tc Cert.ReferenceIdeal.main_v336)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 51) rfl) :) e74 e115
  have e117 : @Eq ((⟨Cert.KernelIdeal.S131072, .i32⟩ : BufTy).Contents (Elt F)) (Φ₁ (Proc.devRef .tc Cert.KernelIdeal.main_v336)) (Φ₂ (Proc.devRef .tc Cert.ReferenceIdeal.main_v337)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 52) rfl) :) e113 e116 e74
  have e118 : @Eq ((⟨Cert.KernelIdeal.S_, .i32⟩ : BufTy).Contents (Elt F)) (Φ₁ (Proc.devRef .tc Cert.KernelIdeal.main_c_128)) (Φ₂ (Proc.devRef .tc Cert.ReferenceIdeal.main_c_128)) := step0 (β := ((⟨Cert.KernelIdeal.S_, .i32⟩ : BufTy).Contents (Elt F))) (eq0 (at_ fa8 (i := 43) rfl) :) (eq0 (at_ fb1 (i := 53) rfl) :)
  have e119 : @Eq ((⟨Cert.KernelIdeal.S131072, .i32⟩ : BufTy).Contents (Elt F)) (Φ₁ (Proc.devRef .tc Cert.KernelIdeal.main_v337)) (Φ₂ (Proc.devRef .tc Cert.ReferenceIdeal.main_v338)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 54) rfl) :) e118
  have e120 : @Eq ((⟨Cert.KernelIdeal.S131072, .i1⟩ : BufTy).Contents (Elt F)) (Φ₁ (Proc.devRef .tc Cert.KernelIdeal.main_v338)) (Φ₂ (Proc.devRef .tc Cert.ReferenceIdeal.main_v339)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb1 (i := 55) rfl) :) e43 e119
  have e121 : @Eq ((⟨Cert.KernelIdeal.S_, .i32⟩ : BufTy).Contents (Elt F)) (Φ₁ (Proc.devRef .tc Cert.KernelIdeal.main_c_129)) (Φ₂ (Proc.devRef .tc Cert.ReferenceIdeal.main_c_129)) := step0 (β := ((⟨Cert.KernelIdeal.S_, .i32⟩ : BufTy).Contents (Elt F))) (eq0 (at_ fa8 (i := 46) rfl) :) (eq0 (at_ fb1 (i := 56) rfl) :)
  have e122 : @Eq ((⟨Cert.KernelIdeal.S131072, .i32⟩ : BufTy).Contents (Elt F)) (Φ₁ (Proc.devRef .tc Cert.KernelIdeal.main_v339)) (Φ₂ (Proc.devRef .tc Cert.ReferenceIdeal.main_v340)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb1 (i := 57) rfl) :) e121
  have e123 : @Eq ((⟨Cert.KernelIdeal.S131072, .i32⟩ : BufTy).Contents (Elt F)) (Φ₁ (Proc.devRef .tc Cert.KernelIdeal.main_v340)) (Φ₂ (Proc.devRef .tc Cert.ReferenceIdeal.main_v341)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb1 (i := 58) rfl) :) e43 e122
  have e124 : @Eq ((⟨Cert.KernelIdeal.S131072, .i32⟩ : BufTy).Contents (Elt F)) (Φ₁ (Proc.devRef .tc Cert.KernelIdeal.main_v341)) (Φ₂ (Proc.devRef .tc Cert.ReferenceIdeal.main_v342)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb1 (i := 59) rfl) :) e120 e123 e43
  have e125 : @Eq ((⟨Cert.KernelIdeal.S131072x1, .i32⟩ : BufTy).Contents (Elt F)) (Φ₁ (Proc.devRef .tc Cert.KernelIdeal.main_v342)) (Φ₂ (Proc.devRef .tc Cert.ReferenceIdeal.main_v343)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb1 (i := 60) rfl) :) e117
  have e126 : @Eq ((⟨Cert.KernelIdeal.S131072x1, .i32⟩ : BufTy).Contents (Elt F)) (Φ₁ (Proc.devRef .tc Cert.KernelIdeal.main_v343)) (Φ₂ (Proc.devRef .tc Cert.ReferenceIdeal.main_v344)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb1 (i := 61) rfl) :) e124
  have e127 : @Eq ((⟨Cert.KernelIdeal.S131072x2, .i32⟩ : BufTy).Contents (Elt F)) (Φ₁ (Proc.devRef .tc Cert.KernelIdeal.main_v344)) (Φ₂ (Proc.devRef .tc Cert.ReferenceIdeal.main_v345)) := by rw [eq2 (at_ fa8 (i := 52) rfl), eq2 (at_ fb1 (i := 62) rfl), e125, e126] <;> rfl
  have e128 : @Eq ((⟨Cert.KernelIdeal.S32x131072, .f32⟩ : BufTy).Contents (Elt F)) (Φ₁ (Proc.devRef .tc Cert.KernelIdeal.main_v345)) (Φ₂ (Proc.devRef .tc Cert.ReferenceIdeal.main_v346)) := by rw [eq2 (at_ fa8 (i := 53) rfl), eq2 (at_ fb1 (i := 63) rfl), x2, e127] <;> rfl
  have e129 : @Eq ((⟨Cert.KernelIdeal.S_, .i32⟩ : BufTy).Contents (Elt F)) (Φ₁ (Proc.devRef .tc Cert.KernelIdeal.main_c_130)) (Φ₂ (Proc.devRef .tc Cert.ReferenceIdeal.main_c_130)) := step0 (β := ((⟨Cert.KernelIdeal.S_, .i32⟩ : BufTy).Contents (Elt F))) (eq0 (at_ fa8 (i := 54) rfl) :) (eq0 (at_ fb1 (i := 64) rfl) :)
  have e130 : @Eq ((⟨Cert.KernelIdeal.S131072, .i32⟩ : BufTy).Contents (Elt F)) (Φ₁ (Proc.devRef .tc Cert.KernelIdeal.main_v346)) (Φ₂ (Proc.devRef .tc Cert.ReferenceIdeal.main_v347)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 0) rfl) :) e129
  have e131 : @Eq ((⟨Cert.KernelIdeal.S131072, .i1⟩ : BufTy).Contents (Elt F)) (Φ₁ (Proc.devRef .tc Cert.KernelIdeal.main_v347)) (Φ₂ (Proc.devRef .tc Cert.ReferenceIdeal.main_v348)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 1) rfl) :) e74 e130
  have e132 : @Eq ((⟨Cert.KernelIdeal.S_, .i32⟩ : BufTy).Contents (Elt F)) (Φ₁ (Proc.devRef .tc Cert.KernelIdeal.main_c_131)) (Φ₂ (Proc.devRef .tc Cert.ReferenceIdeal.main_c_131)) := step0 (β := ((⟨Cert.KernelIdeal.S_, .i32⟩ : BufTy).Contents (Elt F))) (eq0 (at_ fa8 (i := 57) rfl) :) (eq0 (at_ fb2 (i := 2) rfl) :)
  have e133 : @Eq ((⟨Cert.KernelIdeal.S131072, .i32⟩ : BufTy).Contents (Elt F)) (Φ₁ (Proc.devRef .tc Cert.KernelIdeal.main_v348)) (Φ₂ (Proc.devRef .tc Cert.ReferenceIdeal.main_v349)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 3) rfl) :) e132
  have e134 : @Eq ((⟨Cert.KernelIdeal.S131072, .i32⟩ : BufTy).Contents (Elt F)) (Φ₁ (Proc.devRef .tc Cert.KernelIdeal.main_v349)) (Φ₂ (Proc.devRef .tc Cert.ReferenceIdeal.main_v350)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 4) rfl) :) e74 e133
  have e135 : @Eq ((⟨Cert.KernelIdeal.S131072, .i32⟩ : BufTy).Contents (Elt F)) (Φ₁ (Proc.devRef .tc Cert.KernelIdeal.main_v350)) (Φ₂ (Proc.devRef .tc Cert.ReferenceIdeal.main_v351)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 5) rfl) :) e131 e134 e74
  have e136 : @Eq ((⟨Cert.KernelIdeal.S_, .i32⟩ : BufTy).Contents (Elt F)) (Φ₁ (Proc.devRef .tc Cert.KernelIdeal.main_c_132)) (Φ₂ (Proc.devRef .tc Cert.ReferenceIdeal.main_c_132)) := step0 (β := ((⟨Cert.KernelIdeal.S_, .i32⟩ : BufTy).Contents (Elt F))) (eq0 (at_ fa8 (i := 61) rfl) :) (eq0 (at_ fb2 (i := 6) rfl) :)
  have e137 : @Eq ((⟨Cert.KernelIdeal.S131072, .i32⟩ : BufTy).Contents (Elt F)) (Φ₁ (Proc.devRef .tc Cert.KernelIdeal.main_v351)) (Φ₂ (Proc.devRef .tc Cert.ReferenceIdeal.main_v352)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 7) rfl) :) e136
  have e138 : @Eq ((⟨Cert.KernelIdeal.S131072, .i1⟩ : BufTy).Contents (Elt F)) (Φ₁ (Proc.devRef .tc Cert.KernelIdeal.main_v352)) (Φ₂ (Proc.devRef .tc Cert.ReferenceIdeal.main_v353)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 8) rfl) :) e54 e137
  have e139 : @Eq ((⟨Cert.KernelIdeal.S_, .i32⟩ : BufTy).Contents (Elt F)) (Φ₁ (Proc.devRef .tc Cert.KernelIdeal.main_c_133)) (Φ₂ (Proc.devRef .tc Cert.ReferenceIdeal.main_c_133)) := step0 (β := ((⟨Cert.KernelIdeal.S_, .i32⟩ : BufTy).Contents (Elt F))) (eq0 (at_ fa8 (i := 64) rfl) :) (eq0 (at_ fb2 (i := 9) rfl) :)
  have e140 : @Eq ((⟨Cert.KernelIdeal.S131072, .i32⟩ : BufTy).Contents (Elt F)) (Φ₁ (Proc.devRef .tc Cert.KernelIdeal.main_v353)) (Φ₂ (Proc.devRef .tc Cert.ReferenceIdeal.main_v354)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 10) rfl) :) e139
  have e141 : @Eq ((⟨Cert.KernelIdeal.S131072, .i32⟩ : BufTy).Contents (Elt F)) (Φ₁ (Proc.devRef .tc Cert.KernelIdeal.main_v354)) (Φ₂ (Proc.devRef .tc Cert.ReferenceIdeal.main_v355)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 11) rfl) :) e54 e140
  have e142 : @Eq ((⟨Cert.KernelIdeal.S131072, .i32⟩ : BufTy).Contents (Elt F)) (Φ₁ (Proc.devRef .tc Cert.KernelIdeal.main_v355)) (Φ₂ (Proc.devRef .tc Cert.ReferenceIdeal.main_v356)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 12) rfl) :) e138 e141 e54
  have e143 : @Eq ((⟨Cert.KernelIdeal.S131072x1, .i32⟩ : BufTy).Contents (Elt F)) (Φ₁ (Proc.devRef .tc Cert.KernelIdeal.main_v356)) (Φ₂ (Proc.devRef .tc Cert.ReferenceIdeal.main_v357)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 13) rfl) :) e135
  have e144 : @Eq ((⟨Cert.KernelIdeal.S131072x1, .i32⟩ : BufTy).Contents (Elt F)) (Φ₁ (Proc.devRef .tc Cert.KernelIdeal.main_v357)) (Φ₂ (Proc.devRef .tc Cert.ReferenceIdeal.main_v358)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 14) rfl) :) e142
  have e145 : @Eq ((⟨Cert.KernelIdeal.S131072x2, .i32⟩ : BufTy).Contents (Elt F)) (Φ₁ (Proc.devRef .tc Cert.KernelIdeal.main_v358)) (Φ₂ (Proc.devRef .tc Cert.ReferenceIdeal.main_v359)) := by rw [eq2 (at_ fa8 (i := 70) rfl), eq2 (at_ fb2 (i := 15) rfl), e143, e144] <;> rfl
  have e146 : @Eq ((⟨Cert.KernelIdeal.S32x131072, .f32⟩ : BufTy).Contents (Elt F)) (Φ₁ (Proc.devRef .tc Cert.KernelIdeal.main_v359)) (Φ₂ (Proc.devRef .tc Cert.ReferenceIdeal.main_v360)) := by rw [eq2 (at_ fa8 (i := 71) rfl), eq2 (at_ fb2 (i := 16) rfl), x2, e145] <;> rfl
  have e147 : @Eq ((⟨Cert.KernelIdeal.S_, .f32⟩ : BufTy).Contents (Elt F)) (Φ₁ (Proc.devRef .tc Cert.KernelIdeal.main_cst_134)) (Φ₂ (Proc.devRef .tc Cert.ReferenceIdeal.main_cst_134)) := step0 (β := ((⟨Cert.KernelIdeal.S_, .f32⟩ : BufTy).Contents (Elt F))) (eq0 (at_ fa8 (i := 72) rfl) :) (eq0 (at_ fb2 (i := 17) rfl) :)
  have e148 : @Eq ((⟨Cert.KernelIdeal.S131072, .f32⟩ : BufTy).Contents (Elt F)) (Φ₁ (Proc.devRef .tc Cert.KernelIdeal.main_v360)) (Φ₂ (Proc.devRef .tc Cert.ReferenceIdeal.main_v361)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 18) rfl) :) e147
  have e149 : @Eq ((⟨Cert.KernelIdeal.S131072, .f32⟩ : BufTy).Contents (Elt F)) (Φ₁ (Proc.devRef .tc Cert.KernelIdeal.main_v361)) (Φ₂ (Proc.devRef .tc Cert.ReferenceIdeal.main_v362)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 19) rfl) :) e148 e33
  have e150 : @Eq ((⟨Cert.KernelIdeal.S1x131072, .f32⟩ : BufTy).Contents (Elt F)) (Φ₁ (Proc.devRef .tc Cert.KernelIdeal.main_v362)) (Φ₂ (Proc.devRef .tc Cert.ReferenceIdeal.main_v363)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 20) rfl) :) e149
  have e151 : @Eq ((⟨Cert.KernelIdeal.S32x131072, .f32⟩ : BufTy).Contents (Elt F)) (Φ₁ (Proc.devRef .tc Cert.KernelIdeal.main_v363)) (Φ₂ (Proc.devRef .tc Cert.ReferenceIdeal.main_v364)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 21) rfl) :) e150
  have e152 : @Eq ((⟨Cert.KernelIdeal.S32x131072, .f32⟩ : BufTy).Contents (Elt F)) (Φ₁ (Proc.devRef .tc Cert.KernelIdeal.main_v364)) (Φ₂ (Proc.devRef .tc Cert.ReferenceIdeal.main_v365)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 22) rfl) :) e92 e151
  have e153 : @Eq ((⟨Cert.KernelIdeal.S_, .f32⟩ : BufTy).Contents (Elt F)) (Φ₁ (Proc.devRef .tc Cert.KernelIdeal.main_cst_135)) (Φ₂ (Proc.devRef .tc Cert.ReferenceIdeal.main_cst_135)) := step0 (β := ((⟨Cert.KernelIdeal.S_, .f32⟩ : BufTy).Contents (Elt F))) (eq0 (at_ fa8 (i := 78) rfl) :) (eq0 (at_ fb2 (i := 23) rfl) :)
  have e154 : @Eq ((⟨Cert.KernelIdeal.S131072, .f32⟩ : BufTy).Contents (Elt F)) (Φ₁ (Proc.devRef .tc Cert.KernelIdeal.main_v365)) (Φ₂ (Proc.devRef .tc Cert.ReferenceIdeal.main_v366)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 24) rfl) :) e153
  have e155 : @Eq ((⟨Cert.KernelIdeal.S131072, .f32⟩ : BufTy).Contents (Elt F)) (Φ₁ (Proc.devRef .tc Cert.KernelIdeal.main_v366)) (Φ₂ (Proc.devRef .tc Cert.ReferenceIdeal.main_v367)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 25) rfl) :) e154 e34
  have e156 : @Eq ((⟨Cert.KernelIdeal.S1x131072, .f32⟩ : BufTy).Contents (Elt F)) (Φ₁ (Proc.devRef .tc Cert.KernelIdeal.main_v367)) (Φ₂ (Proc.devRef .tc Cert.ReferenceIdeal.main_v368)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 26) rfl) :) e155
  have e157 : @Eq ((⟨Cert.KernelIdeal.S32x131072, .f32⟩ : BufTy).Contents (Elt F)) (Φ₁ (Proc.devRef .tc Cert.KernelIdeal.main_v368)) (Φ₂ (Proc.devRef .tc Cert.ReferenceIdeal.main_v369)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 27) rfl) :) e156
  have e158 : @Eq ((⟨Cert.KernelIdeal.S32x131072, .f32⟩ : BufTy).Contents (Elt F)) (Φ₁ (Proc.devRef .tc Cert.KernelIdeal.main_v369)) (Φ₂ (Proc.devRef .tc Cert.ReferenceIdeal.main_v370)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 28) rfl) :) e152 e157
  have e159 : @Eq ((⟨Cert.KernelIdeal.S1x131072, .f32⟩ : BufTy).Contents (Elt F)) (Φ₁ (Proc.devRef .tc Cert.KernelIdeal.main_v370)) (Φ₂ (Proc.devRef .tc Cert.ReferenceIdeal.main_v371)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 29) rfl) :) e33
  have e160 : @Eq ((⟨Cert.KernelIdeal.S32x131072, .f32⟩ : BufTy).Contents (Elt F)) (Φ₁ (Proc.devRef .tc Cert.KernelIdeal.main_v371)) (Φ₂ (Proc.devRef .tc Cert.ReferenceIdeal.main_v372)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 30) rfl) :) e159
  have e161 : @Eq ((⟨Cert.KernelIdeal.S32x131072, .f32⟩ : BufTy).Contents (Elt F)) (Φ₁ (Proc.devRef .tc Cert.KernelIdeal.main_v372)) (Φ₂ (Proc.devRef .tc Cert.ReferenceIdeal.main_v373)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 31) rfl) :) e110 e160
  have e162 : @Eq ((⟨Cert.KernelIdeal.S_, .f32⟩ : BufTy).Contents (Elt F)) (Φ₁ (Proc.devRef .tc Cert.KernelIdeal.main_cst_136)) (Φ₂ (Proc.devRef .tc Cert.ReferenceIdeal.main_cst_136)) := step0 (β := ((⟨Cert.KernelIdeal.S_, .f32⟩ : BufTy).Contents (Elt F))) (eq0 (at_ fa8 (i := 87) rfl) :) (eq0 (at_ fb2 (i := 32) rfl) :)
  have e163 : @Eq ((⟨Cert.KernelIdeal.S131072, .f32⟩ : BufTy).Contents (Elt F)) (Φ₁ (Proc.devRef .tc Cert.KernelIdeal.main_v373)) (Φ₂ (Proc.devRef .tc Cert.ReferenceIdeal.main_v374)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 33) rfl) :) e162
  have e164 : @Eq ((⟨Cert.KernelIdeal.S131072, .f32⟩ : BufTy).Contents (Elt F)) (Φ₁ (Proc.devRef .tc Cert.KernelIdeal.main_v374)) (Φ₂ (Proc.devRef .tc Cert.ReferenceIdeal.main_v375)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 34) rfl) :) e163 e34
  have e165 : @Eq ((⟨Cert.KernelIdeal.S1x131072, .f32⟩ : BufTy).Contents (Elt F)) (Φ₁ (Proc.devRef .tc Cert.KernelIdeal.main_v375)) (Φ₂ (Proc.devRef .tc Cert.ReferenceIdeal.main_v376)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 35) rfl) :) e164
  have e166 : @Eq ((⟨Cert.KernelIdeal.S32x131072, .f32⟩ : BufTy).Contents (Elt F)) (Φ₁ (Proc.devRef .tc Cert.KernelIdeal.main_v376)) (Φ₂ (Proc.devRef .tc Cert.ReferenceIdeal.main_v377)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 36) rfl) :) e165
  have e167 : @Eq ((⟨Cert.KernelIdeal.S32x131072, .f32⟩ : BufTy).Contents (Elt F)) (Φ₁ (Proc.devRef .tc Cert.KernelIdeal.main_v377)) (Φ₂ (Proc.devRef .tc Cert.ReferenceIdeal.main_v378)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 37) rfl) :) e161 e166
  have e168 : @Eq ((⟨Cert.KernelIdeal.S32x131072, .f32⟩ : BufTy).Contents (Elt F)) (Φ₁ (Proc.devRef .tc Cert.KernelIdeal.main_v378)) (Φ₂ (Proc.devRef .tc Cert.ReferenceIdeal.main_v379)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 38) rfl) :) e158 e167
  have e169 : @Eq ((⟨Cert.KernelIdeal.S_, .f32⟩ : BufTy).Contents (Elt F)) (Φ₁ (Proc.devRef .tc Cert.KernelIdeal.main_cst_137)) (Φ₂ (Proc.devRef .tc Cert.ReferenceIdeal.main_cst_137)) := step0 (β := ((⟨Cert.KernelIdeal.S_, .f32⟩ : BufTy).Contents (Elt F))) (eq0 (at_ fa8 (i := 94) rfl) :) (eq0 (at_ fb2 (i := 39) rfl) :)
  have e170 : @Eq ((⟨Cert.KernelIdeal.S131072, .f32⟩ : BufTy).Contents (Elt F)) (Φ₁ (Proc.devRef .tc Cert.KernelIdeal.main_v379)) (Φ₂ (Proc.devRef .tc Cert.ReferenceIdeal.main_v380)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 40) rfl) :) e169
  have e171 : @Eq ((⟨Cert.KernelIdeal.S131072, .f32⟩ : BufTy).Contents (Elt F)) (Φ₁ (Proc.devRef .tc Cert.KernelIdeal.main_v380)) (Φ₂ (Proc.devRef .tc Cert.ReferenceIdeal.main_v381)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 41) rfl) :) e170 e33
  have e172 : @Eq ((⟨Cert.KernelIdeal.S1x131072, .f32⟩ : BufTy).Contents (Elt F)) (Φ₁ (Proc.devRef .tc Cert.KernelIdeal.main_v381)) (Φ₂ (Proc.devRef .tc Cert.ReferenceIdeal.main_v382)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 42) rfl) :) e171
  have e173 : @Eq ((⟨Cert.KernelIdeal.S32x131072, .f32⟩ : BufTy).Contents (Elt F)) (Φ₁ (Proc.devRef .tc Cert.KernelIdeal.main_v382)) (Φ₂ (Proc.devRef .tc Cert.ReferenceIdeal.main_v383)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 43) rfl) :) e172
  have e174 : @Eq ((⟨Cert.KernelIdeal.S32x131072, .f32⟩ : BufTy).Contents (Elt F)) (Φ₁ (Proc.devRef .tc Cert.KernelIdeal.main_v383)) (Φ₂ (Proc.devRef .tc Cert.ReferenceIdeal.main_v384)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 44) rfl) :) e128 e173
  have e175 : @Eq ((⟨Cert.KernelIdeal.S1x131072, .f32⟩ : BufTy).Contents (Elt F)) (Φ₁ (Proc.devRef .tc Cert.KernelIdeal.main_v384)) (Φ₂ (Proc.devRef .tc Cert.ReferenceIdeal.main_v385)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 45) rfl) :) e34
  have e176 : @Eq ((⟨Cert.KernelIdeal.S32x131072, .f32⟩ : BufTy).Contents (Elt F)) (Φ₁ (Proc.devRef .tc Cert.KernelIdeal.main_v385)) (Φ₂ (Proc.devRef .tc Cert.ReferenceIdeal.main_v386)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 46) rfl) :) e175
  have e177 : @Eq ((⟨Cert.KernelIdeal.S32x131072, .f32⟩ : BufTy).Contents (Elt F)) (Φ₁ (Proc.devRef .tc Cert.KernelIdeal.main_v386)) (Φ₂ (Proc.devRef .tc Cert.ReferenceIdeal.main_v387)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 47) rfl) :) e174 e176
  have e178 : @Eq ((⟨Cert.KernelIdeal.S32x131072, .f32⟩ : BufTy).Contents (Elt F)) (Φ₁ (Proc.devRef .tc Cert.KernelIdeal.main_v387)) (Φ₂ (Proc.devRef .tc Cert.ReferenceIdeal.main_v388)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 48) rfl) :) e168 e177
  have e179 : @Eq ((⟨Cert.KernelIdeal.S1x131072, .f32⟩ : BufTy).Contents (Elt F)) (Φ₁ (Proc.devRef .tc Cert.KernelIdeal.main_v388)) (Φ₂ (Proc.devRef .tc Cert.ReferenceIdeal.main_v389)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 49) rfl) :) e33
  have e180 : @Eq ((⟨Cert.KernelIdeal.S32x131072, .f32⟩ : BufTy).Contents (Elt F)) (Φ₁ (Proc.devRef .tc Cert.KernelIdeal.main_v389)) (Φ₂ (Proc.devRef .tc Cert.ReferenceIdeal.main_v390)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb2 (i := 50) rfl) :) e179
  have e181 : @Eq ((⟨Cert.KernelIdeal.S32x131072, .f32⟩ : BufTy).Contents (Elt F)) (Φ₁ (Proc.devRef .tc Cert.KernelIdeal.main_v390)) (Φ₂ (Proc.devRef .tc Cert.ReferenceIdeal.main_v391)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb2 (i := 51) rfl) :) e146 e180
  have e182 : @Eq ((⟨Cert.KernelIdeal.S1x131072, .f32⟩ : BufTy).Contents (Elt F)) (Φ₁ (Proc.devRef .tc Cert.KernelIdeal.main_v391)) (Φ₂ (Proc.devRef .tc Cert.ReferenceIdeal.main_v392)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb2 (i := 52) rfl) :) e34
  have e183 : @Eq ((⟨Cert.KernelIdeal.S32x131072, .f32⟩ : BufTy).Contents (Elt F)) (Φ₁ (Proc.devRef .tc Cert.KernelIdeal.main_v392)) (Φ₂ (Proc.devRef .tc Cert.ReferenceIdeal.main_v393)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb2 (i := 53) rfl) :) e182
  have e184 : @Eq ((⟨Cert.KernelIdeal.S32x131072, .f32⟩ : BufTy).Contents (Elt F)) (Φ₁ (Proc.devRef .tc Cert.KernelIdeal.main_v393)) (Φ₂ (Proc.devRef .tc Cert.ReferenceIdeal.main_v394)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb2 (i := 54) rfl) :) e181 e183
  have e185 : @Eq ((⟨Cert.KernelIdeal.S32x131072, .f32⟩ : BufTy).Contents (Elt F)) (Φ₁ (Proc.devRef .tc Cert.KernelIdeal.main_v394)) (Φ₂ (Proc.devRef .tc Cert.ReferenceIdeal.main_v395)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb2 (i := 55) rfl) :) e178 e184
  have e186 : @Eq ((⟨Cert.KernelIdeal.S131072x32, .f32⟩ : BufTy).Contents (Elt F)) (Φ₁ (Proc.devRef .tc Cert.KernelIdeal.main_v395)) (Φ₂ (Proc.devRef .tc Cert.ReferenceIdeal.main_v396)) := by rw [eq1 (at_ fa8 (i := 111) rfl), eq1 (at_ fb2 (i := 56) rfl), e185] <;> rfl
  exact e186

end Cert.Bridge

end
-- ==== Proof.SimB3.lean ====
/- Operations 596 … 782 of the one program and 598 … 784 of the other apply the same functions to corresponding
   buffers. If both programs' final contents satisfy their own lines' equations and agree on the buffers these operations
   read from outside, they agree on what these operations write: one congruence per operation, in program order. -/
import proofs.«133805_j10187662426200_2_alg».proof.Proof.KIStretch0
import proofs.«133805_j10187662426200_2_alg».proof.Proof.RefOps1
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B3 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_24 : List (HloOp Cert.KernelIdeal.τ Cert.KernelIdeal.sig (Elt F))).Forall fun op => ∀ b ∈ op.writes, Φ₁ b = op.result Φ₁ b)
    (fa1 : (Cert.KernelIdeal.Gen.hostOps0_25 : List (HloOp Cert.KernelIdeal.τ Cert.KernelIdeal.sig (Elt F))).Forall fun op => ∀ b ∈ op.writes, Φ₁ b = op.result Φ₁ b)
    (fa2 : (Cert.KernelIdeal.Gen.hostOps0_26 : List (HloOp Cert.KernelIdeal.τ Cert.KernelIdeal.sig (Elt F))).Forall fun op => ∀ b ∈ op.writes, Φ₁ b = op.result Φ₁ b)
    (fa3 : (Cert.KernelIdeal.Gen.hostOps0_27 : List (HloOp Cert.KernelIdeal.τ Cert.KernelIdeal.sig (Elt F))).Forall fun op => ∀ b ∈ op.writes, Φ₁ b = op.result Φ₁ b)
    (fa4 : (Cert.KernelIdeal.Gen.hostOps0_28 : List (HloOp Cert.KernelIdeal.τ Cert.KernelIdeal.sig (Elt F))).Forall fun op => ∀ b ∈ op.writes, Φ₁ b = op.result Φ₁ b)
    (fa5 : (Cert.KernelIdeal.Gen.hostOps0_29 : List (HloOp Cert.KernelIdeal.τ Cert.KernelIdeal.sig (Elt F))).Forall fun op => ∀ b ∈ op.writes, Φ₁ b = op.result Φ₁ b)
    (fa6 : (Cert.KernelIdeal.Gen.hostOps0_30 : List (HloOp Cert.KernelIdeal.τ Cert.KernelIdeal.sig (Elt F))).Forall fun op => ∀ b ∈ op.writes, Φ₁ b = op.result Φ₁ b)
    (fa7 : (Cert.KernelIdeal.Gen.hostOps0_31 : List (HloOp Cert.KernelIdeal.τ Cert.KernelIdeal.sig (Elt F))).Forall fun op => ∀ b ∈ op.writes, Φ₁ b = op.result Φ₁ b)
    (fa8 : (Cert.KernelIdeal.Gen.hostOps0_32 : List (HloOp Cert.KernelIdeal.τ Cert.KernelIdeal.sig (Elt F))).Forall fun op => ∀ b ∈ op.writes, Φ₁ b = op.result Φ₁ b)
    (fb0 : (Cert.ReferenceIdeal.Ops.w8 : List (HloOp Cert.ReferenceIdeal.τ Cert.ReferenceIdeal.sig (Elt F))).Forall fun op => ∀ b ∈ op.writes, Φ₂ b = op.result Φ₂ b)
    (fb1 : (Cert.ReferenceIdeal.Ops.w9 : List (HloOp Cert.ReferenceIdeal.τ Cert.ReferenceIdeal.sig (Elt F))).Forall fun op => ∀ b ∈ op.writes, Φ₂ b = op.result Φ₂ b)
    (fb2 : (Cert.ReferenceIdeal.Ops.w10 : List (HloOp Cert.ReferenceIdeal.τ Cert.ReferenceIdeal.sig (Elt F))).Forall fun op => ∀ b ∈ op.writes, Φ₂ b = op.result Φ₂ b)
    (fb3 : (Cert.ReferenceIdeal.Ops.w11 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_2)) (Φ₂ (Proc.devRef .tc Cert.ReferenceIdeal.main_c_2)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x64x64, .f32⟩ : BufTy).Contents (Elt F)) (Φ₁ (Proc.devRef .tc Cert.KernelIdeal.main_arg5)) (Φ₂ (Proc.devRef .tc Cert.ReferenceIdeal.main_arg5)))
    : @Eq ((⟨Cert.KernelIdeal.S131072x32, .f32⟩ : BufTy).Contents (Elt F)) (Φ₁ (Proc.devRef .tc Cert.KernelIdeal.main_v524)) (Φ₂ (Proc.devRef .tc Cert.ReferenceIdeal.main_v526)) := by
  have e0 : @Eq ((⟨Cert.KernelIdeal.S_, .i32⟩ : BufTy).Contents (Elt F)) (Φ₁ (Proc.devRef .tc Cert.KernelIdeal.main_c_138)) (Φ₂ (Proc.devRef .tc Cert.ReferenceIdeal.main_c_138)) := step0 (β := ((⟨Cert.KernelIdeal.S_, .i32⟩ : BufTy).Contents (Elt F))) (eq0 (at_ fa0 (i := 112) rfl) :) (eq0 (at_ fb0 (i := 58) rfl) :)
  have e1 : @Eq ((⟨Cert.KernelIdeal.S2, .i32⟩ : BufTy).Contents (Elt F)) (Φ₁ (Proc.devRef .tc Cert.KernelIdeal.main_v396)) (Φ₂ (Proc.devRef .tc Cert.ReferenceIdeal.main_v398)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 59) rfl) :) e0
  have e2 : @Eq ((⟨Cert.KernelIdeal.S2, .i1⟩ : BufTy).Contents (Elt F)) (Φ₁ (Proc.devRef .tc Cert.KernelIdeal.main_v397)) (Φ₂ (Proc.devRef .tc Cert.ReferenceIdeal.main_v399)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb1 (i := 0) rfl) :) x0 e1
  have e3 : @Eq ((⟨Cert.KernelIdeal.S_, .i32⟩ : BufTy).Contents (Elt F)) (Φ₁ (Proc.devRef .tc Cert.KernelIdeal.main_c_139)) (Φ₂ (Proc.devRef .tc Cert.ReferenceIdeal.main_c_139)) := step0 (β := ((⟨Cert.KernelIdeal.S_, .i32⟩ : BufTy).Contents (Elt F))) (eq0 (at_ fa0 (i := 115) rfl) :) (eq0 (at_ fb1 (i := 1) rfl) :)
  have e4 : @Eq ((⟨Cert.KernelIdeal.S2, .i32⟩ : BufTy).Contents (Elt F)) (Φ₁ (Proc.devRef .tc Cert.KernelIdeal.main_v398)) (Φ₂ (Proc.devRef .tc Cert.ReferenceIdeal.main_v400)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb1 (i := 2) rfl) :) e3
  have e5 : @Eq ((⟨Cert.KernelIdeal.S2, .i32⟩ : BufTy).Contents (Elt F)) (Φ₁ (Proc.devRef .tc Cert.KernelIdeal.main_v399)) (Φ₂ (Proc.devRef .tc Cert.ReferenceIdeal.main_v401)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb1 (i := 3) rfl) :) x0 e4
  have e6 : @Eq ((⟨Cert.KernelIdeal.S2, .i32⟩ : BufTy).Contents (Elt F)) (Φ₁ (Proc.devRef .tc Cert.KernelIdeal.main_v400)) (Φ₂ (Proc.devRef .tc Cert.ReferenceIdeal.main_v402)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb1 (i := 4) rfl) :) e2 e5 x0
  have e7 : @Eq ((⟨Cert.KernelIdeal.S2x1, .i32⟩ : BufTy).Contents (Elt F)) (Φ₁ (Proc.devRef .tc Cert.KernelIdeal.main_v401)) (Φ₂ (Proc.devRef .tc Cert.ReferenceIdeal.main_v403)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb1 (i := 5) rfl) :) e6
  have e8 : @Eq ((⟨Cert.KernelIdeal.S131072x2, .f32⟩ : BufTy).Contents (Elt F)) (Φ₁ (Proc.devRef .tc Cert.KernelIdeal.main_v402)) (Φ₂ (Proc.devRef .tc Cert.ReferenceIdeal.main_v404)) := by rw [eq2 (at_ fa0 (i := 120) rfl), eq2 (at_ fb1 (i := 6) rfl), x1, e7] <;> rfl
  have e9 : @Eq ((⟨Cert.KernelIdeal.S131072x1, .f32⟩ : BufTy).Contents (Elt F)) (Φ₁ (Proc.devRef .tc Cert.KernelIdeal.main_v403)) (Φ₂ (Proc.devRef .tc Cert.ReferenceIdeal.main_v405)) := by rw [eq1 (at_ fa0 (i := 121) rfl), eq1 (at_ fb1 (i := 7) rfl), e8] <;> rfl
  have e10 : @Eq ((⟨Cert.KernelIdeal.S131072, .f32⟩ : BufTy).Contents (Elt F)) (Φ₁ (Proc.devRef .tc Cert.KernelIdeal.main_v404)) (Φ₂ (Proc.devRef .tc Cert.ReferenceIdeal.main_v406)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb1 (i := 8) rfl) :) e9
  have e11 : @Eq ((⟨Cert.KernelIdeal.S_, .f32⟩ : BufTy).Contents (Elt F)) (Φ₁ (Proc.devRef .tc Cert.KernelIdeal.main_cst_140)) (Φ₂ (Proc.devRef .tc Cert.ReferenceIdeal.main_cst_140)) := step0 (β := ((⟨Cert.KernelIdeal.S_, .f32⟩ : BufTy).Contents (Elt F))) (eq0 (at_ fa0 (i := 123) rfl) :) (eq0 (at_ fb1 (i := 9) rfl) :)
  have e12 : @Eq ((⟨Cert.KernelIdeal.S131072, .f32⟩ : BufTy).Contents (Elt F)) (Φ₁ (Proc.devRef .tc Cert.KernelIdeal.main_v405)) (Φ₂ (Proc.devRef .tc Cert.ReferenceIdeal.main_v407)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb1 (i := 10) rfl) :) e11
  have e13 : @Eq ((⟨Cert.KernelIdeal.S131072, .f32⟩ : BufTy).Contents (Elt F)) (Φ₁ (Proc.devRef .tc Cert.KernelIdeal.main_v406)) (Φ₂ (Proc.devRef .tc Cert.ReferenceIdeal.main_v408)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb1 (i := 11) rfl) :) e10 e12
  have e14 : @Eq ((⟨Cert.KernelIdeal.S_, .f32⟩ : BufTy).Contents (Elt F)) (Φ₁ (Proc.devRef .tc Cert.KernelIdeal.main_cst_141)) (Φ₂ (Proc.devRef .tc Cert.ReferenceIdeal.main_cst_141)) := step0 (β := ((⟨Cert.KernelIdeal.S_, .f32⟩ : BufTy).Contents (Elt F))) (eq0 (at_ fa0 (i := 126) rfl) :) (eq0 (at_ fb1 (i := 12) rfl) :)
  have e15 : @Eq ((⟨Cert.KernelIdeal.S131072, .f32⟩ : BufTy).Contents (Elt F)) (Φ₁ (Proc.devRef .tc Cert.KernelIdeal.main_v407)) (Φ₂ (Proc.devRef .tc Cert.ReferenceIdeal.main_v409)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 13) rfl) :) e14
  have e16 : @Eq ((⟨Cert.KernelIdeal.S131072, .f32⟩ : BufTy).Contents (Elt F)) (Φ₁ (Proc.devRef .tc Cert.KernelIdeal.main_v408)) (Φ₂ (Proc.devRef .tc Cert.ReferenceIdeal.main_v410)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 14) rfl) :) e13 e15
  have e17 : @Eq ((⟨Cert.KernelIdeal.S_, .f32⟩ : BufTy).Contents (Elt F)) (Φ₁ (Proc.devRef .tc Cert.KernelIdeal.main_cst_142)) (Φ₂ (Proc.devRef .tc Cert.ReferenceIdeal.main_cst_142)) := step0 (β := ((⟨Cert.KernelIdeal.S_, .f32⟩ : BufTy).Contents (Elt F))) (eq0 (at_ fa0 (i := 129) rfl) :) (eq0 (at_ fb1 (i := 15) rfl) :)
  have e18 : @Eq ((⟨Cert.KernelIdeal.S131072, .f32⟩ : BufTy).Contents (Elt F)) (Φ₁ (Proc.devRef .tc Cert.KernelIdeal.main_v409)) (Φ₂ (Proc.devRef .tc Cert.ReferenceIdeal.main_v411)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 16) rfl) :) e17
  have e19 : @Eq ((⟨Cert.KernelIdeal.S131072, .f32⟩ : BufTy).Contents (Elt F)) (Φ₁ (Proc.devRef .tc Cert.KernelIdeal.main_v410)) (Φ₂ (Proc.devRef .tc Cert.ReferenceIdeal.main_v412)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 17) rfl) :) e16 e18
  have e20 : @Eq ((⟨Cert.KernelIdeal.S131072x1, .f32⟩ : BufTy).Contents (Elt F)) (Φ₁ (Proc.devRef .tc Cert.KernelIdeal.main_v411)) (Φ₂ (Proc.devRef .tc Cert.ReferenceIdeal.main_v413)) := by rw [eq1 (at_ fa0 (i := 132) rfl), eq1 (at_ fb1 (i := 18) rfl), e8] <;> rfl
  have e21 : @Eq ((⟨Cert.KernelIdeal.S131072, .f32⟩ : BufTy).Contents (Elt F)) (Φ₁ (Proc.devRef .tc Cert.KernelIdeal.main_v412)) (Φ₂ (Proc.devRef .tc Cert.ReferenceIdeal.main_v414)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 19) rfl) :) e20
  have e22 : @Eq ((⟨Cert.KernelIdeal.S_, .f32⟩ : BufTy).Contents (Elt F)) (Φ₁ (Proc.devRef .tc Cert.KernelIdeal.main_cst_143)) (Φ₂ (Proc.devRef .tc Cert.ReferenceIdeal.main_cst_143)) := step0 (β := ((⟨Cert.KernelIdeal.S_, .f32⟩ : BufTy).Contents (Elt F))) (eq0 (at_ fa0 (i := 134) rfl) :) (eq0 (at_ fb1 (i := 20) rfl) :)
  have e23 : @Eq ((⟨Cert.KernelIdeal.S131072, .f32⟩ : BufTy).Contents (Elt F)) (Φ₁ (Proc.devRef .tc Cert.KernelIdeal.main_v413)) (Φ₂ (Proc.devRef .tc Cert.ReferenceIdeal.main_v415)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 21) rfl) :) e22
  have e24 : @Eq ((⟨Cert.KernelIdeal.S131072, .f32⟩ : BufTy).Contents (Elt F)) (Φ₁ (Proc.devRef .tc Cert.KernelIdeal.main_v414)) (Φ₂ (Proc.devRef .tc Cert.ReferenceIdeal.main_v416)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 22) rfl) :) e21 e23
  have e25 : @Eq ((⟨Cert.KernelIdeal.S_, .f32⟩ : BufTy).Contents (Elt F)) (Φ₁ (Proc.devRef .tc Cert.KernelIdeal.main_cst_144)) (Φ₂ (Proc.devRef .tc Cert.ReferenceIdeal.main_cst_144)) := step0 (β := ((⟨Cert.KernelIdeal.S_, .f32⟩ : BufTy).Contents (Elt F))) (eq0 (at_ fa0 (i := 137) rfl) :) (eq0 (at_ fb1 (i := 23) rfl) :)
  have e26 : @Eq ((⟨Cert.KernelIdeal.S131072, .f32⟩ : BufTy).Contents (Elt F)) (Φ₁ (Proc.devRef .tc Cert.KernelIdeal.main_v415)) (Φ₂ (Proc.devRef .tc Cert.ReferenceIdeal.main_v417)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 24) rfl) :) e25
  have e27 : @Eq ((⟨Cert.KernelIdeal.S131072, .f32⟩ : BufTy).Contents (Elt F)) (Φ₁ (Proc.devRef .tc Cert.KernelIdeal.main_v416)) (Φ₂ (Proc.devRef .tc Cert.ReferenceIdeal.main_v418)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 25) rfl) :) e24 e26
  have e28 : @Eq ((⟨Cert.KernelIdeal.S_, .f32⟩ : BufTy).Contents (Elt F)) (Φ₁ (Proc.devRef .tc Cert.KernelIdeal.main_cst_145)) (Φ₂ (Proc.devRef .tc Cert.ReferenceIdeal.main_cst_145)) := step0 (β := ((⟨Cert.KernelIdeal.S_, .f32⟩ : BufTy).Contents (Elt F))) (eq0 (at_ fa0 (i := 140) rfl) :) (eq0 (at_ fb1 (i := 26) rfl) :)
  have e29 : @Eq ((⟨Cert.KernelIdeal.S131072, .f32⟩ : BufTy).Contents (Elt F)) (Φ₁ (Proc.devRef .tc Cert.KernelIdeal.main_v417)) (Φ₂ (Proc.devRef .tc Cert.ReferenceIdeal.main_v419)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 27) rfl) :) e28
  have e30 : @Eq ((⟨Cert.KernelIdeal.S131072, .f32⟩ : BufTy).Contents (Elt F)) (Φ₁ (Proc.devRef .tc Cert.KernelIdeal.main_v418)) (Φ₂ (Proc.devRef .tc Cert.ReferenceIdeal.main_v420)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 28) rfl) :) e27 e29
  have e31 : @Eq ((⟨Cert.KernelIdeal.S131072, .f32⟩ : BufTy).Contents (Elt F)) (Φ₁ (Proc.devRef .tc Cert.KernelIdeal.main_v419)) (Φ₂ (Proc.devRef .tc Cert.ReferenceIdeal.main_v421)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 29) rfl) :) e19
  have e32 : @Eq ((⟨Cert.KernelIdeal.S131072, .f32⟩ : BufTy).Contents (Elt F)) (Φ₁ (Proc.devRef .tc Cert.KernelIdeal.main_v420)) (Φ₂ (Proc.devRef .tc Cert.ReferenceIdeal.main_v422)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 30) rfl) :) e30
  have e33 : @Eq ((⟨Cert.KernelIdeal.S131072, .f32⟩ : BufTy).Contents (Elt F)) (Φ₁ (Proc.devRef .tc Cert.KernelIdeal.main_v421)) (Φ₂ (Proc.devRef .tc Cert.ReferenceIdeal.main_v423)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 31) rfl) :) e19 e31
  have e34 : @Eq ((⟨Cert.KernelIdeal.S131072, .f32⟩ : BufTy).Contents (Elt F)) (Φ₁ (Proc.devRef .tc Cert.KernelIdeal.main_v422)) (Φ₂ (Proc.devRef .tc Cert.ReferenceIdeal.main_v424)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 32) rfl) :) e30 e32
  have e35 : @Eq ((⟨Cert.KernelIdeal.S131072, .i32⟩ : BufTy).Contents (Elt F)) (Φ₁ (Proc.devRef .tc Cert.KernelIdeal.main_v423)) (Φ₂ (Proc.devRef .tc Cert.ReferenceIdeal.main_v425)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 33) rfl) :) e31
  have e36 : @Eq ((⟨Cert.KernelIdeal.S_, .i32⟩ : BufTy).Contents (Elt F)) (Φ₁ (Proc.devRef .tc Cert.KernelIdeal.main_c_146)) (Φ₂ (Proc.devRef .tc Cert.ReferenceIdeal.main_c_146)) := step0 (β := ((⟨Cert.KernelIdeal.S_, .i32⟩ : BufTy).Contents (Elt F))) (eq0 (at_ fa0 (i := 148) rfl) :) (eq0 (at_ fb1 (i := 34) rfl) :)
  have e37 : @Eq ((⟨Cert.KernelIdeal.S_, .i32⟩ : BufTy).Contents (Elt F)) (Φ₁ (Proc.devRef .tc Cert.KernelIdeal.main_c_147)) (Φ₂ (Proc.devRef .tc Cert.ReferenceIdeal.main_c_147)) := step0 (β := ((⟨Cert.KernelIdeal.S_, .i32⟩ : BufTy).Contents (Elt F))) (eq0 (at_ fa0 (i := 149) rfl) :) (eq0 (at_ fb1 (i := 35) rfl) :)
  have e38 : @Eq ((⟨Cert.KernelIdeal.S_, .i32⟩ : BufTy).Contents (Elt F)) (Φ₁ (Proc.devRef .tc Cert.KernelIdeal.main_call12_v0)) (Φ₂ (Proc.devRef .tc Cert.ReferenceIdeal.main_call12_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 36) rfl) :) e36
  have e39 : @Eq ((⟨Cert.KernelIdeal.S131072, .i32⟩ : BufTy).Contents (Elt F)) (Φ₁ (Proc.devRef .tc Cert.KernelIdeal.main_call12_v1)) (Φ₂ (Proc.devRef .tc Cert.ReferenceIdeal.main_call12_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 37) rfl) :) e38
  have e40 : @Eq ((⟨Cert.KernelIdeal.S131072, .i32⟩ : BufTy).Contents (Elt F)) (Φ₁ (Proc.devRef .tc Cert.KernelIdeal.main_call12_v2)) (Φ₂ (Proc.devRef .tc Cert.ReferenceIdeal.main_call12_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 38) rfl) :) e39 e35
  have e41 : @Eq ((⟨Cert.KernelIdeal.S_, .i32⟩ : BufTy).Contents (Elt F)) (Φ₁ (Proc.devRef .tc Cert.KernelIdeal.main_call12_v3)) (Φ₂ (Proc.devRef .tc Cert.ReferenceIdeal.main_call12_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 39) rfl) :) e37
  have e42 : @Eq ((⟨Cert.KernelIdeal.S131072, .i32⟩ : BufTy).Contents (Elt F)) (Φ₁ (Proc.devRef .tc Cert.KernelIdeal.main_call12_v4)) (Φ₂ (Proc.devRef .tc Cert.ReferenceIdeal.main_call12_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 40) rfl) :) e41
  have e43 : @Eq ((⟨Cert.KernelIdeal.S131072, .i32⟩ : BufTy).Contents (Elt F)) (Φ₁ (Proc.devRef .tc Cert.KernelIdeal.main_v424)) (Φ₂ (Proc.devRef .tc Cert.ReferenceIdeal.main_v426)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 41) rfl) :) e42 e40
  have e44 : @Eq ((⟨Cert.KernelIdeal.S_, .i32⟩ : BufTy).Contents (Elt F)) (Φ₁ (Proc.devRef .tc Cert.KernelIdeal.main_c_148)) (Φ₂ (Proc.devRef .tc Cert.ReferenceIdeal.main_c_148)) := step0 (β := ((⟨Cert.KernelIdeal.S_, .i32⟩ : BufTy).Contents (Elt F))) (eq0 (at_ fa2 (i := 0) rfl) :) (eq0 (at_ fb1 (i := 42) rfl) :)
  have e45 : @Eq ((⟨Cert.KernelIdeal.S131072, .i32⟩ : BufTy).Contents (Elt F)) (Φ₁ (Proc.devRef .tc Cert.KernelIdeal.main_v425)) (Φ₂ (Proc.devRef .tc Cert.ReferenceIdeal.main_v427)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 43) rfl) :) e44
  have e46 : @Eq ((⟨Cert.KernelIdeal.S131072, .i32⟩ : BufTy).Contents (Elt F)) (Φ₁ (Proc.devRef .tc Cert.KernelIdeal.main_v426)) (Φ₂ (Proc.devRef .tc Cert.ReferenceIdeal.main_v428)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 44) rfl) :) e43 e45
  have e47 : @Eq ((⟨Cert.KernelIdeal.S_, .i32⟩ : BufTy).Contents (Elt F)) (Φ₁ (Proc.devRef .tc Cert.KernelIdeal.main_c_149)) (Φ₂ (Proc.devRef .tc Cert.ReferenceIdeal.main_c_149)) := step0 (β := ((⟨Cert.KernelIdeal.S_, .i32⟩ : BufTy).Contents (Elt F))) (eq0 (at_ fa2 (i := 3) rfl) :) (eq0 (at_ fb1 (i := 45) rfl) :)
  have e48 : @Eq ((⟨Cert.KernelIdeal.S_, .i32⟩ : BufTy).Contents (Elt F)) (Φ₁ (Proc.devRef .tc Cert.KernelIdeal.main_c_150)) (Φ₂ (Proc.devRef .tc Cert.ReferenceIdeal.main_c_150)) := step0 (β := ((⟨Cert.KernelIdeal.S_, .i32⟩ : BufTy).Contents (Elt F))) (eq0 (at_ fa2 (i := 4) rfl) :) (eq0 (at_ fb1 (i := 46) rfl) :)
  have e49 : @Eq ((⟨Cert.KernelIdeal.S_, .i32⟩ : BufTy).Contents (Elt F)) (Φ₁ (Proc.devRef .tc Cert.KernelIdeal.main_call13_v0)) (Φ₂ (Proc.devRef .tc Cert.ReferenceIdeal.main_call13_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 47) rfl) :) e47
  have e50 : @Eq ((⟨Cert.KernelIdeal.S131072, .i32⟩ : BufTy).Contents (Elt F)) (Φ₁ (Proc.devRef .tc Cert.KernelIdeal.main_call13_v1)) (Φ₂ (Proc.devRef .tc Cert.ReferenceIdeal.main_call13_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 48) rfl) :) e49
  have e51 : @Eq ((⟨Cert.KernelIdeal.S131072, .i32⟩ : BufTy).Contents (Elt F)) (Φ₁ (Proc.devRef .tc Cert.KernelIdeal.main_call13_v2)) (Φ₂ (Proc.devRef .tc Cert.ReferenceIdeal.main_call13_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 49) rfl) :) e50 e46
  have e52 : @Eq ((⟨Cert.KernelIdeal.S_, .i32⟩ : BufTy).Contents (Elt F)) (Φ₁ (Proc.devRef .tc Cert.KernelIdeal.main_call13_v3)) (Φ₂ (Proc.devRef .tc Cert.ReferenceIdeal.main_call13_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 50) rfl) :) e48
  have e53 : @Eq ((⟨Cert.KernelIdeal.S131072, .i32⟩ : BufTy).Contents (Elt F)) (Φ₁ (Proc.devRef .tc Cert.KernelIdeal.main_call13_v4)) (Φ₂ (Proc.devRef .tc Cert.ReferenceIdeal.main_call13_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 51) rfl) :) e52
  have e54 : @Eq ((⟨Cert.KernelIdeal.S131072, .i32⟩ : BufTy).Contents (Elt F)) (Φ₁ (Proc.devRef .tc Cert.KernelIdeal.main_v427)) (Φ₂ (Proc.devRef .tc Cert.ReferenceIdeal.main_v429)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 52) rfl) :) e53 e51
  have e55 : @Eq ((⟨Cert.KernelIdeal.S131072, .i32⟩ : BufTy).Contents (Elt F)) (Φ₁ (Proc.devRef .tc Cert.KernelIdeal.main_v428)) (Φ₂ (Proc.devRef .tc Cert.ReferenceIdeal.main_v430)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 53) rfl) :) e32
  have e56 : @Eq ((⟨Cert.KernelIdeal.S_, .i32⟩ : BufTy).Contents (Elt F)) (Φ₁ (Proc.devRef .tc Cert.KernelIdeal.main_c_151)) (Φ₂ (Proc.devRef .tc Cert.ReferenceIdeal.main_c_151)) := step0 (β := ((⟨Cert.KernelIdeal.S_, .i32⟩ : BufTy).Contents (Elt F))) (eq0 (at_ fa4 (i := 1) rfl) :) (eq0 (at_ fb1 (i := 54) rfl) :)
  have e57 : @Eq ((⟨Cert.KernelIdeal.S_, .i32⟩ : BufTy).Contents (Elt F)) (Φ₁ (Proc.devRef .tc Cert.KernelIdeal.main_c_152)) (Φ₂ (Proc.devRef .tc Cert.ReferenceIdeal.main_c_152)) := step0 (β := ((⟨Cert.KernelIdeal.S_, .i32⟩ : BufTy).Contents (Elt F))) (eq0 (at_ fa4 (i := 2) rfl) :) (eq0 (at_ fb1 (i := 55) rfl) :)
  have e58 : @Eq ((⟨Cert.KernelIdeal.S_, .i32⟩ : BufTy).Contents (Elt F)) (Φ₁ (Proc.devRef .tc Cert.KernelIdeal.main_call14_v0)) (Φ₂ (Proc.devRef .tc Cert.ReferenceIdeal.main_call14_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 56) rfl) :) e56
  have e59 : @Eq ((⟨Cert.KernelIdeal.S131072, .i32⟩ : BufTy).Contents (Elt F)) (Φ₁ (Proc.devRef .tc Cert.KernelIdeal.main_call14_v1)) (Φ₂ (Proc.devRef .tc Cert.ReferenceIdeal.main_call14_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 57) rfl) :) e58
  have e60 : @Eq ((⟨Cert.KernelIdeal.S131072, .i32⟩ : BufTy).Contents (Elt F)) (Φ₁ (Proc.devRef .tc Cert.KernelIdeal.main_call14_v2)) (Φ₂ (Proc.devRef .tc Cert.ReferenceIdeal.main_call14_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 58) rfl) :) e59 e55
  have e61 : @Eq ((⟨Cert.KernelIdeal.S_, .i32⟩ : BufTy).Contents (Elt F)) (Φ₁ (Proc.devRef .tc Cert.KernelIdeal.main_call14_v3)) (Φ₂ (Proc.devRef .tc Cert.ReferenceIdeal.main_call14_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 59) rfl) :) e57
  have e62 : @Eq ((⟨Cert.KernelIdeal.S131072, .i32⟩ : BufTy).Contents (Elt F)) (Φ₁ (Proc.devRef .tc Cert.KernelIdeal.main_call14_v4)) (Φ₂ (Proc.devRef .tc Cert.ReferenceIdeal.main_call14_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 60) rfl) :) e61
  have e63 : @Eq ((⟨Cert.KernelIdeal.S131072, .i32⟩ : BufTy).Contents (Elt F)) (Φ₁ (Proc.devRef .tc Cert.KernelIdeal.main_v429)) (Φ₂ (Proc.devRef .tc Cert.ReferenceIdeal.main_v431)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 61) rfl) :) e62 e60
  have e64 : @Eq ((⟨Cert.KernelIdeal.S_, .i32⟩ : BufTy).Contents (Elt F)) (Φ₁ (Proc.devRef .tc Cert.KernelIdeal.main_c_153)) (Φ₂ (Proc.devRef .tc Cert.ReferenceIdeal.main_c_153)) := step0 (β := ((⟨Cert.KernelIdeal.S_, .i32⟩ : BufTy).Contents (Elt F))) (eq0 (at_ fa6 (i := 0) rfl) :) (eq0 (at_ fb1 (i := 62) rfl) :)
  have e65 : @Eq ((⟨Cert.KernelIdeal.S131072, .i32⟩ : BufTy).Contents (Elt F)) (Φ₁ (Proc.devRef .tc Cert.KernelIdeal.main_v430)) (Φ₂ (Proc.devRef .tc Cert.ReferenceIdeal.main_v432)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 63) rfl) :) e64
  have e66 : @Eq ((⟨Cert.KernelIdeal.S131072, .i32⟩ : BufTy).Contents (Elt F)) (Φ₁ (Proc.devRef .tc Cert.KernelIdeal.main_v431)) (Φ₂ (Proc.devRef .tc Cert.ReferenceIdeal.main_v433)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 64) rfl) :) e63 e65
  have e67 : @Eq ((⟨Cert.KernelIdeal.S_, .i32⟩ : BufTy).Contents (Elt F)) (Φ₁ (Proc.devRef .tc Cert.KernelIdeal.main_c_154)) (Φ₂ (Proc.devRef .tc Cert.ReferenceIdeal.main_c_154)) := step0 (β := ((⟨Cert.KernelIdeal.S_, .i32⟩ : BufTy).Contents (Elt F))) (eq0 (at_ fa6 (i := 3) rfl) :) (eq0 (at_ fb1 (i := 65) rfl) :)
  have e68 : @Eq ((⟨Cert.KernelIdeal.S_, .i32⟩ : BufTy).Contents (Elt F)) (Φ₁ (Proc.devRef .tc Cert.KernelIdeal.main_c_155)) (Φ₂ (Proc.devRef .tc Cert.ReferenceIdeal.main_c_155)) := step0 (β := ((⟨Cert.KernelIdeal.S_, .i32⟩ : BufTy).Contents (Elt F))) (eq0 (at_ fa6 (i := 4) rfl) :) (eq0 (at_ fb1 (i := 66) rfl) :)
  have e69 : @Eq ((⟨Cert.KernelIdeal.S_, .i32⟩ : BufTy).Contents (Elt F)) (Φ₁ (Proc.devRef .tc Cert.KernelIdeal.main_call15_v0)) (Φ₂ (Proc.devRef .tc Cert.ReferenceIdeal.main_call15_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 67) rfl) :) e67
  have e70 : @Eq ((⟨Cert.KernelIdeal.S131072, .i32⟩ : BufTy).Contents (Elt F)) (Φ₁ (Proc.devRef .tc Cert.KernelIdeal.main_call15_v1)) (Φ₂ (Proc.devRef .tc Cert.ReferenceIdeal.main_call15_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 68) rfl) :) e69
  have e71 : @Eq ((⟨Cert.KernelIdeal.S131072, .i32⟩ : BufTy).Contents (Elt F)) (Φ₁ (Proc.devRef .tc Cert.KernelIdeal.main_call15_v2)) (Φ₂ (Proc.devRef .tc Cert.ReferenceIdeal.main_call15_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 69) rfl) :) e70 e66
  have e72 : @Eq ((⟨Cert.KernelIdeal.S_, .i32⟩ : BufTy).Contents (Elt F)) (Φ₁ (Proc.devRef .tc Cert.KernelIdeal.main_call15_v3)) (Φ₂ (Proc.devRef .tc Cert.ReferenceIdeal.main_call15_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 70) rfl) :) e68
  have e73 : @Eq ((⟨Cert.KernelIdeal.S131072, .i32⟩ : BufTy).Contents (Elt F)) (Φ₁ (Proc.devRef .tc Cert.KernelIdeal.main_call15_v4)) (Φ₂ (Proc.devRef .tc Cert.ReferenceIdeal.main_call15_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 71) rfl) :) e72
  have e74 : @Eq ((⟨Cert.KernelIdeal.S131072, .i32⟩ : BufTy).Contents (Elt F)) (Φ₁ (Proc.devRef .tc Cert.KernelIdeal.main_v432)) (Φ₂ (Proc.devRef .tc Cert.ReferenceIdeal.main_v434)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 72) rfl) :) e73 e71
  have e75 : @Eq ((⟨Cert.KernelIdeal.S_, .i32⟩ : BufTy).Contents (Elt F)) (Φ₁ (Proc.devRef .tc Cert.KernelIdeal.main_c_156)) (Φ₂ (Proc.devRef .tc Cert.ReferenceIdeal.main_c_156)) := step0 (β := ((⟨Cert.KernelIdeal.S_, .i32⟩ : BufTy).Contents (Elt F))) (eq0 (at_ fa8 (i := 0) rfl) :) (eq0 (at_ fb1 (i := 73) rfl) :)
  have e76 : @Eq ((⟨Cert.KernelIdeal.S131072, .i32⟩ : BufTy).Contents (Elt F)) (Φ₁ (Proc.devRef .tc Cert.KernelIdeal.main_v433)) (Φ₂ (Proc.devRef .tc Cert.ReferenceIdeal.main_v435)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 74) rfl) :) e75
  have e77 : @Eq ((⟨Cert.KernelIdeal.S131072, .i1⟩ : BufTy).Contents (Elt F)) (Φ₁ (Proc.devRef .tc Cert.KernelIdeal.main_v434)) (Φ₂ (Proc.devRef .tc Cert.ReferenceIdeal.main_v436)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 75) rfl) :) e63 e76
  have e78 : @Eq ((⟨Cert.KernelIdeal.S_, .i32⟩ : BufTy).Contents (Elt F)) (Φ₁ (Proc.devRef .tc Cert.KernelIdeal.main_c_157)) (Φ₂ (Proc.devRef .tc Cert.ReferenceIdeal.main_c_157)) := step0 (β := ((⟨Cert.KernelIdeal.S_, .i32⟩ : BufTy).Contents (Elt F))) (eq0 (at_ fa8 (i := 3) rfl) :) (eq0 (at_ fb1 (i := 76) rfl) :)
  have e79 : @Eq ((⟨Cert.KernelIdeal.S131072, .i32⟩ : BufTy).Contents (Elt F)) (Φ₁ (Proc.devRef .tc Cert.KernelIdeal.main_v435)) (Φ₂ (Proc.devRef .tc Cert.ReferenceIdeal.main_v437)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 77) rfl) :) e78
  have e80 : @Eq ((⟨Cert.KernelIdeal.S131072, .i32⟩ : BufTy).Contents (Elt F)) (Φ₁ (Proc.devRef .tc Cert.KernelIdeal.main_v436)) (Φ₂ (Proc.devRef .tc Cert.ReferenceIdeal.main_v438)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 78) rfl) :) e63 e79
  have e81 : @Eq ((⟨Cert.KernelIdeal.S131072, .i32⟩ : BufTy).Contents (Elt F)) (Φ₁ (Proc.devRef .tc Cert.KernelIdeal.main_v437)) (Φ₂ (Proc.devRef .tc Cert.ReferenceIdeal.main_v439)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 79) rfl) :) e77 e80 e63
  have e82 : @Eq ((⟨Cert.KernelIdeal.S_, .i32⟩ : BufTy).Contents (Elt F)) (Φ₁ (Proc.devRef .tc Cert.KernelIdeal.main_c_158)) (Φ₂ (Proc.devRef .tc Cert.ReferenceIdeal.main_c_158)) := step0 (β := ((⟨Cert.KernelIdeal.S_, .i32⟩ : BufTy).Contents (Elt F))) (eq0 (at_ fa8 (i := 7) rfl) :) (eq0 (at_ fb2 (i := 0) rfl) :)
  have e83 : @Eq ((⟨Cert.KernelIdeal.S131072, .i32⟩ : BufTy).Contents (Elt F)) (Φ₁ (Proc.devRef .tc Cert.KernelIdeal.main_v438)) (Φ₂ (Proc.devRef .tc Cert.ReferenceIdeal.main_v440)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb2 (i := 1) rfl) :) e82
  have e84 : @Eq ((⟨Cert.KernelIdeal.S131072, .i1⟩ : BufTy).Contents (Elt F)) (Φ₁ (Proc.devRef .tc Cert.KernelIdeal.main_v439)) (Φ₂ (Proc.devRef .tc Cert.ReferenceIdeal.main_v441)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb2 (i := 2) rfl) :) e43 e83
  have e85 : @Eq ((⟨Cert.KernelIdeal.S_, .i32⟩ : BufTy).Contents (Elt F)) (Φ₁ (Proc.devRef .tc Cert.KernelIdeal.main_c_159)) (Φ₂ (Proc.devRef .tc Cert.ReferenceIdeal.main_c_159)) := step0 (β := ((⟨Cert.KernelIdeal.S_, .i32⟩ : BufTy).Contents (Elt F))) (eq0 (at_ fa8 (i := 10) rfl) :) (eq0 (at_ fb2 (i := 3) rfl) :)
  have e86 : @Eq ((⟨Cert.KernelIdeal.S131072, .i32⟩ : BufTy).Contents (Elt F)) (Φ₁ (Proc.devRef .tc Cert.KernelIdeal.main_v440)) (Φ₂ (Proc.devRef .tc Cert.ReferenceIdeal.main_v442)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb2 (i := 4) rfl) :) e85
  have e87 : @Eq ((⟨Cert.KernelIdeal.S131072, .i32⟩ : BufTy).Contents (Elt F)) (Φ₁ (Proc.devRef .tc Cert.KernelIdeal.main_v441)) (Φ₂ (Proc.devRef .tc Cert.ReferenceIdeal.main_v443)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb2 (i := 5) rfl) :) e43 e86
  have e88 : @Eq ((⟨Cert.KernelIdeal.S131072, .i32⟩ : BufTy).Contents (Elt F)) (Φ₁ (Proc.devRef .tc Cert.KernelIdeal.main_v442)) (Φ₂ (Proc.devRef .tc Cert.ReferenceIdeal.main_v444)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb2 (i := 6) rfl) :) e84 e87 e43
  have e89 : @Eq ((⟨Cert.KernelIdeal.S131072x1, .i32⟩ : BufTy).Contents (Elt F)) (Φ₁ (Proc.devRef .tc Cert.KernelIdeal.main_v443)) (Φ₂ (Proc.devRef .tc Cert.ReferenceIdeal.main_v445)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb2 (i := 7) rfl) :) e81
  have e90 : @Eq ((⟨Cert.KernelIdeal.S131072x1, .i32⟩ : BufTy).Contents (Elt F)) (Φ₁ (Proc.devRef .tc Cert.KernelIdeal.main_v444)) (Φ₂ (Proc.devRef .tc Cert.ReferenceIdeal.main_v446)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb2 (i := 8) rfl) :) e88
  have e91 : @Eq ((⟨Cert.KernelIdeal.S131072x2, .i32⟩ : BufTy).Contents (Elt F)) (Φ₁ (Proc.devRef .tc Cert.KernelIdeal.main_v445)) (Φ₂ (Proc.devRef .tc Cert.ReferenceIdeal.main_v447)) := by rw [eq2 (at_ fa8 (i := 16) rfl), eq2 (at_ fb2 (i := 9) rfl), e89, e90] <;> rfl
  have e92 : @Eq ((⟨Cert.KernelIdeal.S32x131072, .f32⟩ : BufTy).Contents (Elt F)) (Φ₁ (Proc.devRef .tc Cert.KernelIdeal.main_v446)) (Φ₂ (Proc.devRef .tc Cert.ReferenceIdeal.main_v448)) := by rw [eq2 (at_ fa8 (i := 17) rfl), eq2 (at_ fb2 (i := 10) rfl), x2, e91] <;> rfl
  have e93 : @Eq ((⟨Cert.KernelIdeal.S_, .i32⟩ : BufTy).Contents (Elt F)) (Φ₁ (Proc.devRef .tc Cert.KernelIdeal.main_c_160)) (Φ₂ (Proc.devRef .tc Cert.ReferenceIdeal.main_c_160)) := step0 (β := ((⟨Cert.KernelIdeal.S_, .i32⟩ : BufTy).Contents (Elt F))) (eq0 (at_ fa8 (i := 18) rfl) :) (eq0 (at_ fb2 (i := 11) rfl) :)
  have e94 : @Eq ((⟨Cert.KernelIdeal.S131072, .i32⟩ : BufTy).Contents (Elt F)) (Φ₁ (Proc.devRef .tc Cert.KernelIdeal.main_v447)) (Φ₂ (Proc.devRef .tc Cert.ReferenceIdeal.main_v449)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb2 (i := 12) rfl) :) e93
  have e95 : @Eq ((⟨Cert.KernelIdeal.S131072, .i1⟩ : BufTy).Contents (Elt F)) (Φ₁ (Proc.devRef .tc Cert.KernelIdeal.main_v448)) (Φ₂ (Proc.devRef .tc Cert.ReferenceIdeal.main_v450)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 13) rfl) :) e63 e94
  have e96 : @Eq ((⟨Cert.KernelIdeal.S_, .i32⟩ : BufTy).Contents (Elt F)) (Φ₁ (Proc.devRef .tc Cert.KernelIdeal.main_c_161)) (Φ₂ (Proc.devRef .tc Cert.ReferenceIdeal.main_c_161)) := step0 (β := ((⟨Cert.KernelIdeal.S_, .i32⟩ : BufTy).Contents (Elt F))) (eq0 (at_ fa8 (i := 21) rfl) :) (eq0 (at_ fb2 (i := 14) rfl) :)
  have e97 : @Eq ((⟨Cert.KernelIdeal.S131072, .i32⟩ : BufTy).Contents (Elt F)) (Φ₁ (Proc.devRef .tc Cert.KernelIdeal.main_v449)) (Φ₂ (Proc.devRef .tc Cert.ReferenceIdeal.main_v451)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 15) rfl) :) e96
  have e98 : @Eq ((⟨Cert.KernelIdeal.S131072, .i32⟩ : BufTy).Contents (Elt F)) (Φ₁ (Proc.devRef .tc Cert.KernelIdeal.main_v450)) (Φ₂ (Proc.devRef .tc Cert.ReferenceIdeal.main_v452)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 16) rfl) :) e63 e97
  have e99 : @Eq ((⟨Cert.KernelIdeal.S131072, .i32⟩ : BufTy).Contents (Elt F)) (Φ₁ (Proc.devRef .tc Cert.KernelIdeal.main_v451)) (Φ₂ (Proc.devRef .tc Cert.ReferenceIdeal.main_v453)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 17) rfl) :) e95 e98 e63
  have e100 : @Eq ((⟨Cert.KernelIdeal.S_, .i32⟩ : BufTy).Contents (Elt F)) (Φ₁ (Proc.devRef .tc Cert.KernelIdeal.main_c_162)) (Φ₂ (Proc.devRef .tc Cert.ReferenceIdeal.main_c_162)) := step0 (β := ((⟨Cert.KernelIdeal.S_, .i32⟩ : BufTy).Contents (Elt F))) (eq0 (at_ fa8 (i := 25) rfl) :) (eq0 (at_ fb2 (i := 18) rfl) :)
  have e101 : @Eq ((⟨Cert.KernelIdeal.S131072, .i32⟩ : BufTy).Contents (Elt F)) (Φ₁ (Proc.devRef .tc Cert.KernelIdeal.main_v452)) (Φ₂ (Proc.devRef .tc Cert.ReferenceIdeal.main_v454)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 19) rfl) :) e100
  have e102 : @Eq ((⟨Cert.KernelIdeal.S131072, .i1⟩ : BufTy).Contents (Elt F)) (Φ₁ (Proc.devRef .tc Cert.KernelIdeal.main_v453)) (Φ₂ (Proc.devRef .tc Cert.ReferenceIdeal.main_v455)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 20) rfl) :) e54 e101
  have e103 : @Eq ((⟨Cert.KernelIdeal.S_, .i32⟩ : BufTy).Contents (Elt F)) (Φ₁ (Proc.devRef .tc Cert.KernelIdeal.main_c_163)) (Φ₂ (Proc.devRef .tc Cert.ReferenceIdeal.main_c_163)) := step0 (β := ((⟨Cert.KernelIdeal.S_, .i32⟩ : BufTy).Contents (Elt F))) (eq0 (at_ fa8 (i := 28) rfl) :) (eq0 (at_ fb2 (i := 21) rfl) :)
  have e104 : @Eq ((⟨Cert.KernelIdeal.S131072, .i32⟩ : BufTy).Contents (Elt F)) (Φ₁ (Proc.devRef .tc Cert.KernelIdeal.main_v454)) (Φ₂ (Proc.devRef .tc Cert.ReferenceIdeal.main_v456)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 22) rfl) :) e103
  have e105 : @Eq ((⟨Cert.KernelIdeal.S131072, .i32⟩ : BufTy).Contents (Elt F)) (Φ₁ (Proc.devRef .tc Cert.KernelIdeal.main_v455)) (Φ₂ (Proc.devRef .tc Cert.ReferenceIdeal.main_v457)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 23) rfl) :) e54 e104
  have e106 : @Eq ((⟨Cert.KernelIdeal.S131072, .i32⟩ : BufTy).Contents (Elt F)) (Φ₁ (Proc.devRef .tc Cert.KernelIdeal.main_v456)) (Φ₂ (Proc.devRef .tc Cert.ReferenceIdeal.main_v458)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 24) rfl) :) e102 e105 e54
  have e107 : @Eq ((⟨Cert.KernelIdeal.S131072x1, .i32⟩ : BufTy).Contents (Elt F)) (Φ₁ (Proc.devRef .tc Cert.KernelIdeal.main_v457)) (Φ₂ (Proc.devRef .tc Cert.ReferenceIdeal.main_v459)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 25) rfl) :) e99
  have e108 : @Eq ((⟨Cert.KernelIdeal.S131072x1, .i32⟩ : BufTy).Contents (Elt F)) (Φ₁ (Proc.devRef .tc Cert.KernelIdeal.main_v458)) (Φ₂ (Proc.devRef .tc Cert.ReferenceIdeal.main_v460)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 26) rfl) :) e106
  have e109 : @Eq ((⟨Cert.KernelIdeal.S131072x2, .i32⟩ : BufTy).Contents (Elt F)) (Φ₁ (Proc.devRef .tc Cert.KernelIdeal.main_v459)) (Φ₂ (Proc.devRef .tc Cert.ReferenceIdeal.main_v461)) := by rw [eq2 (at_ fa8 (i := 34) rfl), eq2 (at_ fb2 (i := 27) rfl), e107, e108] <;> rfl
  have e110 : @Eq ((⟨Cert.KernelIdeal.S32x131072, .f32⟩ : BufTy).Contents (Elt F)) (Φ₁ (Proc.devRef .tc Cert.KernelIdeal.main_v460)) (Φ₂ (Proc.devRef .tc Cert.ReferenceIdeal.main_v462)) := by rw [eq2 (at_ fa8 (i := 35) rfl), eq2 (at_ fb2 (i := 28) rfl), x2, e109] <;> rfl
  have e111 : @Eq ((⟨Cert.KernelIdeal.S_, .i32⟩ : BufTy).Contents (Elt F)) (Φ₁ (Proc.devRef .tc Cert.KernelIdeal.main_c_164)) (Φ₂ (Proc.devRef .tc Cert.ReferenceIdeal.main_c_164)) := step0 (β := ((⟨Cert.KernelIdeal.S_, .i32⟩ : BufTy).Contents (Elt F))) (eq0 (at_ fa8 (i := 36) rfl) :) (eq0 (at_ fb2 (i := 29) rfl) :)
  have e112 : @Eq ((⟨Cert.KernelIdeal.S131072, .i32⟩ : BufTy).Contents (Elt F)) (Φ₁ (Proc.devRef .tc Cert.KernelIdeal.main_v461)) (Φ₂ (Proc.devRef .tc Cert.ReferenceIdeal.main_v463)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 30) rfl) :) e111
  have e113 : @Eq ((⟨Cert.KernelIdeal.S131072, .i1⟩ : BufTy).Contents (Elt F)) (Φ₁ (Proc.devRef .tc Cert.KernelIdeal.main_v462)) (Φ₂ (Proc.devRef .tc Cert.ReferenceIdeal.main_v464)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 31) rfl) :) e74 e112
  have e114 : @Eq ((⟨Cert.KernelIdeal.S_, .i32⟩ : BufTy).Contents (Elt F)) (Φ₁ (Proc.devRef .tc Cert.KernelIdeal.main_c_165)) (Φ₂ (Proc.devRef .tc Cert.ReferenceIdeal.main_c_165)) := step0 (β := ((⟨Cert.KernelIdeal.S_, .i32⟩ : BufTy).Contents (Elt F))) (eq0 (at_ fa8 (i := 39) rfl) :) (eq0 (at_ fb2 (i := 32) rfl) :)
  have e115 : @Eq ((⟨Cert.KernelIdeal.S131072, .i32⟩ : BufTy).Contents (Elt F)) (Φ₁ (Proc.devRef .tc Cert.KernelIdeal.main_v463)) (Φ₂ (Proc.devRef .tc Cert.ReferenceIdeal.main_v465)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 33) rfl) :) e114
  have e116 : @Eq ((⟨Cert.KernelIdeal.S131072, .i32⟩ : BufTy).Contents (Elt F)) (Φ₁ (Proc.devRef .tc Cert.KernelIdeal.main_v464)) (Φ₂ (Proc.devRef .tc Cert.ReferenceIdeal.main_v466)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 34) rfl) :) e74 e115
  have e117 : @Eq ((⟨Cert.KernelIdeal.S131072, .i32⟩ : BufTy).Contents (Elt F)) (Φ₁ (Proc.devRef .tc Cert.KernelIdeal.main_v465)) (Φ₂ (Proc.devRef .tc Cert.ReferenceIdeal.main_v467)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 35) rfl) :) e113 e116 e74
  have e118 : @Eq ((⟨Cert.KernelIdeal.S_, .i32⟩ : BufTy).Contents (Elt F)) (Φ₁ (Proc.devRef .tc Cert.KernelIdeal.main_c_166)) (Φ₂ (Proc.devRef .tc Cert.ReferenceIdeal.main_c_166)) := step0 (β := ((⟨Cert.KernelIdeal.S_, .i32⟩ : BufTy).Contents (Elt F))) (eq0 (at_ fa8 (i := 43) rfl) :) (eq0 (at_ fb2 (i := 36) rfl) :)
  have e119 : @Eq ((⟨Cert.KernelIdeal.S131072, .i32⟩ : BufTy).Contents (Elt F)) (Φ₁ (Proc.devRef .tc Cert.KernelIdeal.main_v466)) (Φ₂ (Proc.devRef .tc Cert.ReferenceIdeal.main_v468)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 37) rfl) :) e118
  have e120 : @Eq ((⟨Cert.KernelIdeal.S131072, .i1⟩ : BufTy).Contents (Elt F)) (Φ₁ (Proc.devRef .tc Cert.KernelIdeal.main_v467)) (Φ₂ (Proc.devRef .tc Cert.ReferenceIdeal.main_v469)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 38) rfl) :) e43 e119
  have e121 : @Eq ((⟨Cert.KernelIdeal.S_, .i32⟩ : BufTy).Contents (Elt F)) (Φ₁ (Proc.devRef .tc Cert.KernelIdeal.main_c_167)) (Φ₂ (Proc.devRef .tc Cert.ReferenceIdeal.main_c_167)) := step0 (β := ((⟨Cert.KernelIdeal.S_, .i32⟩ : BufTy).Contents (Elt F))) (eq0 (at_ fa8 (i := 46) rfl) :) (eq0 (at_ fb2 (i := 39) rfl) :)
  have e122 : @Eq ((⟨Cert.KernelIdeal.S131072, .i32⟩ : BufTy).Contents (Elt F)) (Φ₁ (Proc.devRef .tc Cert.KernelIdeal.main_v468)) (Φ₂ (Proc.devRef .tc Cert.ReferenceIdeal.main_v470)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 40) rfl) :) e121
  have e123 : @Eq ((⟨Cert.KernelIdeal.S131072, .i32⟩ : BufTy).Contents (Elt F)) (Φ₁ (Proc.devRef .tc Cert.KernelIdeal.main_v469)) (Φ₂ (Proc.devRef .tc Cert.ReferenceIdeal.main_v471)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 41) rfl) :) e43 e122
  have e124 : @Eq ((⟨Cert.KernelIdeal.S131072, .i32⟩ : BufTy).Contents (Elt F)) (Φ₁ (Proc.devRef .tc Cert.KernelIdeal.main_v470)) (Φ₂ (Proc.devRef .tc Cert.ReferenceIdeal.main_v472)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 42) rfl) :) e120 e123 e43
  have e125 : @Eq ((⟨Cert.KernelIdeal.S131072x1, .i32⟩ : BufTy).Contents (Elt F)) (Φ₁ (Proc.devRef .tc Cert.KernelIdeal.main_v471)) (Φ₂ (Proc.devRef .tc Cert.ReferenceIdeal.main_v473)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 43) rfl) :) e117
  have e126 : @Eq ((⟨Cert.KernelIdeal.S131072x1, .i32⟩ : BufTy).Contents (Elt F)) (Φ₁ (Proc.devRef .tc Cert.KernelIdeal.main_v472)) (Φ₂ (Proc.devRef .tc Cert.ReferenceIdeal.main_v474)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 44) rfl) :) e124
  have e127 : @Eq ((⟨Cert.KernelIdeal.S131072x2, .i32⟩ : BufTy).Contents (Elt F)) (Φ₁ (Proc.devRef .tc Cert.KernelIdeal.main_v473)) (Φ₂ (Proc.devRef .tc Cert.ReferenceIdeal.main_v475)) := by rw [eq2 (at_ fa8 (i := 52) rfl), eq2 (at_ fb2 (i := 45) rfl), e125, e126] <;> rfl
  have e128 : @Eq ((⟨Cert.KernelIdeal.S32x131072, .f32⟩ : BufTy).Contents (Elt F)) (Φ₁ (Proc.devRef .tc Cert.KernelIdeal.main_v474)) (Φ₂ (Proc.devRef .tc Cert.ReferenceIdeal.main_v476)) := by rw [eq2 (at_ fa8 (i := 53) rfl), eq2 (at_ fb2 (i := 46) rfl), x2, e127] <;> rfl
  have e129 : @Eq ((⟨Cert.KernelIdeal.S_, .i32⟩ : BufTy).Contents (Elt F)) (Φ₁ (Proc.devRef .tc Cert.KernelIdeal.main_c_168)) (Φ₂ (Proc.devRef .tc Cert.ReferenceIdeal.main_c_168)) := step0 (β := ((⟨Cert.KernelIdeal.S_, .i32⟩ : BufTy).Contents (Elt F))) (eq0 (at_ fa8 (i := 54) rfl) :) (eq0 (at_ fb2 (i := 47) rfl) :)
  have e130 : @Eq ((⟨Cert.KernelIdeal.S131072, .i32⟩ : BufTy).Contents (Elt F)) (Φ₁ (Proc.devRef .tc Cert.KernelIdeal.main_v475)) (Φ₂ (Proc.devRef .tc Cert.ReferenceIdeal.main_v477)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 48) rfl) :) e129
  have e131 : @Eq ((⟨Cert.KernelIdeal.S131072, .i1⟩ : BufTy).Contents (Elt F)) (Φ₁ (Proc.devRef .tc Cert.KernelIdeal.main_v476)) (Φ₂ (Proc.devRef .tc Cert.ReferenceIdeal.main_v478)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 49) rfl) :) e74 e130
  have e132 : @Eq ((⟨Cert.KernelIdeal.S_, .i32⟩ : BufTy).Contents (Elt F)) (Φ₁ (Proc.devRef .tc Cert.KernelIdeal.main_c_169)) (Φ₂ (Proc.devRef .tc Cert.ReferenceIdeal.main_c_169)) := step0 (β := ((⟨Cert.KernelIdeal.S_, .i32⟩ : BufTy).Contents (Elt F))) (eq0 (at_ fa8 (i := 57) rfl) :) (eq0 (at_ fb2 (i := 50) rfl) :)
  have e133 : @Eq ((⟨Cert.KernelIdeal.S131072, .i32⟩ : BufTy).Contents (Elt F)) (Φ₁ (Proc.devRef .tc Cert.KernelIdeal.main_v477)) (Φ₂ (Proc.devRef .tc Cert.ReferenceIdeal.main_v479)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 51) rfl) :) e132
  have e134 : @Eq ((⟨Cert.KernelIdeal.S131072, .i32⟩ : BufTy).Contents (Elt F)) (Φ₁ (Proc.devRef .tc Cert.KernelIdeal.main_v478)) (Φ₂ (Proc.devRef .tc Cert.ReferenceIdeal.main_v480)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 52) rfl) :) e74 e133
  have e135 : @Eq ((⟨Cert.KernelIdeal.S131072, .i32⟩ : BufTy).Contents (Elt F)) (Φ₁ (Proc.devRef .tc Cert.KernelIdeal.main_v479)) (Φ₂ (Proc.devRef .tc Cert.ReferenceIdeal.main_v481)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 53) rfl) :) e131 e134 e74
  have e136 : @Eq ((⟨Cert.KernelIdeal.S_, .i32⟩ : BufTy).Contents (Elt F)) (Φ₁ (Proc.devRef .tc Cert.KernelIdeal.main_c_170)) (Φ₂ (Proc.devRef .tc Cert.ReferenceIdeal.main_c_170)) := step0 (β := ((⟨Cert.KernelIdeal.S_, .i32⟩ : BufTy).Contents (Elt F))) (eq0 (at_ fa8 (i := 61) rfl) :) (eq0 (at_ fb2 (i := 54) rfl) :)
  have e137 : @Eq ((⟨Cert.KernelIdeal.S131072, .i32⟩ : BufTy).Contents (Elt F)) (Φ₁ (Proc.devRef .tc Cert.KernelIdeal.main_v480)) (Φ₂ (Proc.devRef .tc Cert.ReferenceIdeal.main_v482)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 55) rfl) :) e136
  have e138 : @Eq ((⟨Cert.KernelIdeal.S131072, .i1⟩ : BufTy).Contents (Elt F)) (Φ₁ (Proc.devRef .tc Cert.KernelIdeal.main_v481)) (Φ₂ (Proc.devRef .tc Cert.ReferenceIdeal.main_v483)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 56) rfl) :) e54 e137
  have e139 : @Eq ((⟨Cert.KernelIdeal.S_, .i32⟩ : BufTy).Contents (Elt F)) (Φ₁ (Proc.devRef .tc Cert.KernelIdeal.main_c_171)) (Φ₂ (Proc.devRef .tc Cert.ReferenceIdeal.main_c_171)) := step0 (β := ((⟨Cert.KernelIdeal.S_, .i32⟩ : BufTy).Contents (Elt F))) (eq0 (at_ fa8 (i := 64) rfl) :) (eq0 (at_ fb2 (i := 57) rfl) :)
  have e140 : @Eq ((⟨Cert.KernelIdeal.S131072, .i32⟩ : BufTy).Contents (Elt F)) (Φ₁ (Proc.devRef .tc Cert.KernelIdeal.main_v482)) (Φ₂ (Proc.devRef .tc Cert.ReferenceIdeal.main_v484)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 58) rfl) :) e139
  have e141 : @Eq ((⟨Cert.KernelIdeal.S131072, .i32⟩ : BufTy).Contents (Elt F)) (Φ₁ (Proc.devRef .tc Cert.KernelIdeal.main_v483)) (Φ₂ (Proc.devRef .tc Cert.ReferenceIdeal.main_v485)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 59) rfl) :) e54 e140
  have e142 : @Eq ((⟨Cert.KernelIdeal.S131072, .i32⟩ : BufTy).Contents (Elt F)) (Φ₁ (Proc.devRef .tc Cert.KernelIdeal.main_v484)) (Φ₂ (Proc.devRef .tc Cert.ReferenceIdeal.main_v486)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb3 (i := 0) rfl) :) e138 e141 e54
  have e143 : @Eq ((⟨Cert.KernelIdeal.S131072x1, .i32⟩ : BufTy).Contents (Elt F)) (Φ₁ (Proc.devRef .tc Cert.KernelIdeal.main_v485)) (Φ₂ (Proc.devRef .tc Cert.ReferenceIdeal.main_v487)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb3 (i := 1) rfl) :) e135
  have e144 : @Eq ((⟨Cert.KernelIdeal.S131072x1, .i32⟩ : BufTy).Contents (Elt F)) (Φ₁ (Proc.devRef .tc Cert.KernelIdeal.main_v486)) (Φ₂ (Proc.devRef .tc Cert.ReferenceIdeal.main_v488)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb3 (i := 2) rfl) :) e142
  have e145 : @Eq ((⟨Cert.KernelIdeal.S131072x2, .i32⟩ : BufTy).Contents (Elt F)) (Φ₁ (Proc.devRef .tc Cert.KernelIdeal.main_v487)) (Φ₂ (Proc.devRef .tc Cert.ReferenceIdeal.main_v489)) := by rw [eq2 (at_ fa8 (i := 70) rfl), eq2 (at_ fb3 (i := 3) rfl), e143, e144] <;> rfl
  have e146 : @Eq ((⟨Cert.KernelIdeal.S32x131072, .f32⟩ : BufTy).Contents (Elt F)) (Φ₁ (Proc.devRef .tc Cert.KernelIdeal.main_v488)) (Φ₂ (Proc.devRef .tc Cert.ReferenceIdeal.main_v490)) := by rw [eq2 (at_ fa8 (i := 71) rfl), eq2 (at_ fb3 (i := 4) rfl), x2, e145] <;> rfl
  have e147 : @Eq ((⟨Cert.KernelIdeal.S_, .f32⟩ : BufTy).Contents (Elt F)) (Φ₁ (Proc.devRef .tc Cert.KernelIdeal.main_cst_172)) (Φ₂ (Proc.devRef .tc Cert.ReferenceIdeal.main_cst_172)) := step0 (β := ((⟨Cert.KernelIdeal.S_, .f32⟩ : BufTy).Contents (Elt F))) (eq0 (at_ fa8 (i := 72) rfl) :) (eq0 (at_ fb3 (i := 5) rfl) :)
  have e148 : @Eq ((⟨Cert.KernelIdeal.S131072, .f32⟩ : BufTy).Contents (Elt F)) (Φ₁ (Proc.devRef .tc Cert.KernelIdeal.main_v489)) (Φ₂ (Proc.devRef .tc Cert.ReferenceIdeal.main_v491)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb3 (i := 6) rfl) :) e147
  have e149 : @Eq ((⟨Cert.KernelIdeal.S131072, .f32⟩ : BufTy).Contents (Elt F)) (Φ₁ (Proc.devRef .tc Cert.KernelIdeal.main_v490)) (Φ₂ (Proc.devRef .tc Cert.ReferenceIdeal.main_v492)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb3 (i := 7) rfl) :) e148 e33
  have e150 : @Eq ((⟨Cert.KernelIdeal.S1x131072, .f32⟩ : BufTy).Contents (Elt F)) (Φ₁ (Proc.devRef .tc Cert.KernelIdeal.main_v491)) (Φ₂ (Proc.devRef .tc Cert.ReferenceIdeal.main_v493)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb3 (i := 8) rfl) :) e149
  have e151 : @Eq ((⟨Cert.KernelIdeal.S32x131072, .f32⟩ : BufTy).Contents (Elt F)) (Φ₁ (Proc.devRef .tc Cert.KernelIdeal.main_v492)) (Φ₂ (Proc.devRef .tc Cert.ReferenceIdeal.main_v494)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb3 (i := 9) rfl) :) e150
  have e152 : @Eq ((⟨Cert.KernelIdeal.S32x131072, .f32⟩ : BufTy).Contents (Elt F)) (Φ₁ (Proc.devRef .tc Cert.KernelIdeal.main_v493)) (Φ₂ (Proc.devRef .tc Cert.ReferenceIdeal.main_v495)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb3 (i := 10) rfl) :) e92 e151
  have e153 : @Eq ((⟨Cert.KernelIdeal.S_, .f32⟩ : BufTy).Contents (Elt F)) (Φ₁ (Proc.devRef .tc Cert.KernelIdeal.main_cst_173)) (Φ₂ (Proc.devRef .tc Cert.ReferenceIdeal.main_cst_173)) := step0 (β := ((⟨Cert.KernelIdeal.S_, .f32⟩ : BufTy).Contents (Elt F))) (eq0 (at_ fa8 (i := 78) rfl) :) (eq0 (at_ fb3 (i := 11) rfl) :)
  have e154 : @Eq ((⟨Cert.KernelIdeal.S131072, .f32⟩ : BufTy).Contents (Elt F)) (Φ₁ (Proc.devRef .tc Cert.KernelIdeal.main_v494)) (Φ₂ (Proc.devRef .tc Cert.ReferenceIdeal.main_v496)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb3 (i := 12) rfl) :) e153
  have e155 : @Eq ((⟨Cert.KernelIdeal.S131072, .f32⟩ : BufTy).Contents (Elt F)) (Φ₁ (Proc.devRef .tc Cert.KernelIdeal.main_v495)) (Φ₂ (Proc.devRef .tc Cert.ReferenceIdeal.main_v497)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 13) rfl) :) e154 e34
  have e156 : @Eq ((⟨Cert.KernelIdeal.S1x131072, .f32⟩ : BufTy).Contents (Elt F)) (Φ₁ (Proc.devRef .tc Cert.KernelIdeal.main_v496)) (Φ₂ (Proc.devRef .tc Cert.ReferenceIdeal.main_v498)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 14) rfl) :) e155
  have e157 : @Eq ((⟨Cert.KernelIdeal.S32x131072, .f32⟩ : BufTy).Contents (Elt F)) (Φ₁ (Proc.devRef .tc Cert.KernelIdeal.main_v497)) (Φ₂ (Proc.devRef .tc Cert.ReferenceIdeal.main_v499)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 15) rfl) :) e156
  have e158 : @Eq ((⟨Cert.KernelIdeal.S32x131072, .f32⟩ : BufTy).Contents (Elt F)) (Φ₁ (Proc.devRef .tc Cert.KernelIdeal.main_v498)) (Φ₂ (Proc.devRef .tc Cert.ReferenceIdeal.main_v500)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 16) rfl) :) e152 e157
  have e159 : @Eq ((⟨Cert.KernelIdeal.S1x131072, .f32⟩ : BufTy).Contents (Elt F)) (Φ₁ (Proc.devRef .tc Cert.KernelIdeal.main_v499)) (Φ₂ (Proc.devRef .tc Cert.ReferenceIdeal.main_v501)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 17) rfl) :) e33
  have e160 : @Eq ((⟨Cert.KernelIdeal.S32x131072, .f32⟩ : BufTy).Contents (Elt F)) (Φ₁ (Proc.devRef .tc Cert.KernelIdeal.main_v500)) (Φ₂ (Proc.devRef .tc Cert.ReferenceIdeal.main_v502)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 18) rfl) :) e159
  have e161 : @Eq ((⟨Cert.KernelIdeal.S32x131072, .f32⟩ : BufTy).Contents (Elt F)) (Φ₁ (Proc.devRef .tc Cert.KernelIdeal.main_v501)) (Φ₂ (Proc.devRef .tc Cert.ReferenceIdeal.main_v503)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 19) rfl) :) e110 e160
  have e162 : @Eq ((⟨Cert.KernelIdeal.S_, .f32⟩ : BufTy).Contents (Elt F)) (Φ₁ (Proc.devRef .tc Cert.KernelIdeal.main_cst_174)) (Φ₂ (Proc.devRef .tc Cert.ReferenceIdeal.main_cst_174)) := step0 (β := ((⟨Cert.KernelIdeal.S_, .f32⟩ : BufTy).Contents (Elt F))) (eq0 (at_ fa8 (i := 87) rfl) :) (eq0 (at_ fb3 (i := 20) rfl) :)
  have e163 : @Eq ((⟨Cert.KernelIdeal.S131072, .f32⟩ : BufTy).Contents (Elt F)) (Φ₁ (Proc.devRef .tc Cert.KernelIdeal.main_v502)) (Φ₂ (Proc.devRef .tc Cert.ReferenceIdeal.main_v504)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 21) rfl) :) e162
  have e164 : @Eq ((⟨Cert.KernelIdeal.S131072, .f32⟩ : BufTy).Contents (Elt F)) (Φ₁ (Proc.devRef .tc Cert.KernelIdeal.main_v503)) (Φ₂ (Proc.devRef .tc Cert.ReferenceIdeal.main_v505)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 22) rfl) :) e163 e34
  have e165 : @Eq ((⟨Cert.KernelIdeal.S1x131072, .f32⟩ : BufTy).Contents (Elt F)) (Φ₁ (Proc.devRef .tc Cert.KernelIdeal.main_v504)) (Φ₂ (Proc.devRef .tc Cert.ReferenceIdeal.main_v506)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 23) rfl) :) e164
  have e166 : @Eq ((⟨Cert.KernelIdeal.S32x131072, .f32⟩ : BufTy).Contents (Elt F)) (Φ₁ (Proc.devRef .tc Cert.KernelIdeal.main_v505)) (Φ₂ (Proc.devRef .tc Cert.ReferenceIdeal.main_v507)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 24) rfl) :) e165
  have e167 : @Eq ((⟨Cert.KernelIdeal.S32x131072, .f32⟩ : BufTy).Contents (Elt F)) (Φ₁ (Proc.devRef .tc Cert.KernelIdeal.main_v506)) (Φ₂ (Proc.devRef .tc Cert.ReferenceIdeal.main_v508)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 25) rfl) :) e161 e166
  have e168 : @Eq ((⟨Cert.KernelIdeal.S32x131072, .f32⟩ : BufTy).Contents (Elt F)) (Φ₁ (Proc.devRef .tc Cert.KernelIdeal.main_v507)) (Φ₂ (Proc.devRef .tc Cert.ReferenceIdeal.main_v509)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 26) rfl) :) e158 e167
  have e169 : @Eq ((⟨Cert.KernelIdeal.S_, .f32⟩ : BufTy).Contents (Elt F)) (Φ₁ (Proc.devRef .tc Cert.KernelIdeal.main_cst_175)) (Φ₂ (Proc.devRef .tc Cert.ReferenceIdeal.main_cst_175)) := step0 (β := ((⟨Cert.KernelIdeal.S_, .f32⟩ : BufTy).Contents (Elt F))) (eq0 (at_ fa8 (i := 94) rfl) :) (eq0 (at_ fb3 (i := 27) rfl) :)
  have e170 : @Eq ((⟨Cert.KernelIdeal.S131072, .f32⟩ : BufTy).Contents (Elt F)) (Φ₁ (Proc.devRef .tc Cert.KernelIdeal.main_v508)) (Φ₂ (Proc.devRef .tc Cert.ReferenceIdeal.main_v510)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 28) rfl) :) e169
  have e171 : @Eq ((⟨Cert.KernelIdeal.S131072, .f32⟩ : BufTy).Contents (Elt F)) (Φ₁ (Proc.devRef .tc Cert.KernelIdeal.main_v509)) (Φ₂ (Proc.devRef .tc Cert.ReferenceIdeal.main_v511)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 29) rfl) :) e170 e33
  have e172 : @Eq ((⟨Cert.KernelIdeal.S1x131072, .f32⟩ : BufTy).Contents (Elt F)) (Φ₁ (Proc.devRef .tc Cert.KernelIdeal.main_v510)) (Φ₂ (Proc.devRef .tc Cert.ReferenceIdeal.main_v512)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 30) rfl) :) e171
  have e173 : @Eq ((⟨Cert.KernelIdeal.S32x131072, .f32⟩ : BufTy).Contents (Elt F)) (Φ₁ (Proc.devRef .tc Cert.KernelIdeal.main_v511)) (Φ₂ (Proc.devRef .tc Cert.ReferenceIdeal.main_v513)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 31) rfl) :) e172
  have e174 : @Eq ((⟨Cert.KernelIdeal.S32x131072, .f32⟩ : BufTy).Contents (Elt F)) (Φ₁ (Proc.devRef .tc Cert.KernelIdeal.main_v512)) (Φ₂ (Proc.devRef .tc Cert.ReferenceIdeal.main_v514)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 32) rfl) :) e128 e173
  have e175 : @Eq ((⟨Cert.KernelIdeal.S1x131072, .f32⟩ : BufTy).Contents (Elt F)) (Φ₁ (Proc.devRef .tc Cert.KernelIdeal.main_v513)) (Φ₂ (Proc.devRef .tc Cert.ReferenceIdeal.main_v515)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 33) rfl) :) e34
  have e176 : @Eq ((⟨Cert.KernelIdeal.S32x131072, .f32⟩ : BufTy).Contents (Elt F)) (Φ₁ (Proc.devRef .tc Cert.KernelIdeal.main_v514)) (Φ₂ (Proc.devRef .tc Cert.ReferenceIdeal.main_v516)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 34) rfl) :) e175
  have e177 : @Eq ((⟨Cert.KernelIdeal.S32x131072, .f32⟩ : BufTy).Contents (Elt F)) (Φ₁ (Proc.devRef .tc Cert.KernelIdeal.main_v515)) (Φ₂ (Proc.devRef .tc Cert.ReferenceIdeal.main_v517)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 35) rfl) :) e174 e176
  have e178 : @Eq ((⟨Cert.KernelIdeal.S32x131072, .f32⟩ : BufTy).Contents (Elt F)) (Φ₁ (Proc.devRef .tc Cert.KernelIdeal.main_v516)) (Φ₂ (Proc.devRef .tc Cert.ReferenceIdeal.main_v518)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 36) rfl) :) e168 e177
  have e179 : @Eq ((⟨Cert.KernelIdeal.S1x131072, .f32⟩ : BufTy).Contents (Elt F)) (Φ₁ (Proc.devRef .tc Cert.KernelIdeal.main_v517)) (Φ₂ (Proc.devRef .tc Cert.ReferenceIdeal.main_v519)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 37) rfl) :) e33
  have e180 : @Eq ((⟨Cert.KernelIdeal.S32x131072, .f32⟩ : BufTy).Contents (Elt F)) (Φ₁ (Proc.devRef .tc Cert.KernelIdeal.main_v518)) (Φ₂ (Proc.devRef .tc Cert.ReferenceIdeal.main_v520)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 38) rfl) :) e179
  have e181 : @Eq ((⟨Cert.KernelIdeal.S32x131072, .f32⟩ : BufTy).Contents (Elt F)) (Φ₁ (Proc.devRef .tc Cert.KernelIdeal.main_v519)) (Φ₂ (Proc.devRef .tc Cert.ReferenceIdeal.main_v521)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 39) rfl) :) e146 e180
  have e182 : @Eq ((⟨Cert.KernelIdeal.S1x131072, .f32⟩ : BufTy).Contents (Elt F)) (Φ₁ (Proc.devRef .tc Cert.KernelIdeal.main_v520)) (Φ₂ (Proc.devRef .tc Cert.ReferenceIdeal.main_v522)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 40) rfl) :) e34
  have e183 : @Eq ((⟨Cert.KernelIdeal.S32x131072, .f32⟩ : BufTy).Contents (Elt F)) (Φ₁ (Proc.devRef .tc Cert.KernelIdeal.main_v521)) (Φ₂ (Proc.devRef .tc Cert.ReferenceIdeal.main_v523)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 41) rfl) :) e182
  have e184 : @Eq ((⟨Cert.KernelIdeal.S32x131072, .f32⟩ : BufTy).Contents (Elt F)) (Φ₁ (Proc.devRef .tc Cert.KernelIdeal.main_v522)) (Φ₂ (Proc.devRef .tc Cert.ReferenceIdeal.main_v524)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 42) rfl) :) e181 e183
  have e185 : @Eq ((⟨Cert.KernelIdeal.S32x131072, .f32⟩ : BufTy).Contents (Elt F)) (Φ₁ (Proc.devRef .tc Cert.KernelIdeal.main_v523)) (Φ₂ (Proc.devRef .tc Cert.ReferenceIdeal.main_v525)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 43) rfl) :) e178 e184
  have e186 : @Eq ((⟨Cert.KernelIdeal.S131072x32, .f32⟩ : BufTy).Contents (Elt F)) (Φ₁ (Proc.devRef .tc Cert.KernelIdeal.main_v524)) (Φ₂ (Proc.devRef .tc Cert.ReferenceIdeal.main_v526)) := by rw [eq1 (at_ fa8 (i := 111) rfl), eq1 (at_ fb3 (i := 44) rfl), e185] <;> rfl
  exact e186

end Cert.Bridge

end
-- ==== Proof.SimB4.lean ====
/- Operations 783 … 969 of the one program and 786 … 972 of the other apply the same functions to corresponding
   buffers. If both programs' final contents satisfy their own lines' equations and agree on the buffers these operations
   read from outside, they agree on what these operations write: one congruence per operation, in program order. -/
import proofs.«133805_j10187662426200_2_alg».proof.Proof.KIStretch0
import proofs.«133805_j10187662426200_2_alg».proof.Proof.KIStretch1
import proofs.«133805_j10187662426200_2_alg».proof.Proof.RefOps1
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B4 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_32 : List (HloOp Cert.KernelIdeal.τ Cert.KernelIdeal.sig (Elt F))).Forall fun op => ∀ b ∈ op.writes, Φ₁ b = op.result Φ₁ b)
    (fa1 : (Cert.KernelIdeal.Gen.hostOps0_33 : List (HloOp Cert.KernelIdeal.τ Cert.KernelIdeal.sig (Elt F))).Forall fun op => ∀ b ∈ op.writes, Φ₁ b = op.result Φ₁ b)
    (fa2 : (Cert.KernelIdeal.Gen.hostOps0_34 : List (HloOp Cert.KernelIdeal.τ Cert.KernelIdeal.sig (Elt F))).Forall fun op => ∀ b ∈ op.writes, Φ₁ b = op.result Φ₁ b)
    (fa3 : (Cert.KernelIdeal.Gen.hostOps0_35 : List (HloOp Cert.KernelIdeal.τ Cert.KernelIdeal.sig (Elt F))).Forall fun op => ∀ b ∈ op.writes, Φ₁ b = op.result Φ₁ b)
    (fa4 : (Cert.KernelIdeal.Gen.hostOps0_36 : List (HloOp Cert.KernelIdeal.τ Cert.KernelIdeal.sig (Elt F))).Forall fun op => ∀ b ∈ op.writes, Φ₁ b = op.result Φ₁ b)
    (fa5 : (Cert.KernelIdeal.Gen.hostOps0_37 : List (HloOp Cert.KernelIdeal.τ Cert.KernelIdeal.sig (Elt F))).Forall fun op => ∀ b ∈ op.writes, Φ₁ b = op.result Φ₁ b)
    (fa6 : (Cert.KernelIdeal.Gen.hostOps0_38 : List (HloOp Cert.KernelIdeal.τ Cert.KernelIdeal.sig (Elt F))).Forall fun op => ∀ b ∈ op.writes, Φ₁ b = op.result Φ₁ b)
    (fa7 : (Cert.KernelIdeal.Gen.hostOps0_39 : List (HloOp Cert.KernelIdeal.τ Cert.KernelIdeal.sig (Elt F))).Forall fun op => ∀ b ∈ op.writes, Φ₁ b = op.result Φ₁ b)
    (fa8 : (Cert.KernelIdeal.Gen.hostOps0_40 : List (HloOp Cert.KernelIdeal.τ Cert.KernelIdeal.sig (Elt F))).Forall fun op => ∀ b ∈ op.writes, Φ₁ b = op.result Φ₁ b)
    (fb0 : (Cert.ReferenceIdeal.Ops.w11 : List (HloOp Cert.ReferenceIdeal.τ Cert.ReferenceIdeal.sig (Elt F))).Forall fun op => ∀ b ∈ op.writes, Φ₂ b = op.result Φ₂ b)
    (fb1 : (Cert.ReferenceIdeal.Ops.w12 : List (HloOp Cert.ReferenceIdeal.τ Cert.ReferenceIdeal.sig (Elt F))).Forall fun op => ∀ b ∈ op.writes, Φ₂ b = op.result Φ₂ b)
    (fb2 : (Cert.ReferenceIdeal.Ops.w13 : List (HloOp Cert.ReferenceIdeal.τ Cert.ReferenceIdeal.sig (Elt F))).Forall fun op => ∀ b ∈ op.writes, Φ₂ b = op.result Φ₂ b)
    (fb3 : (Cert.ReferenceIdeal.Ops.w14 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_3)) (Φ₂ (Proc.devRef .tc Cert.ReferenceIdeal.main_c_3)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x64, .f32⟩ : BufTy).Contents (Elt F)) (Φ₁ (Proc.devRef .tc Cert.KernelIdeal.main_arg6)) (Φ₂ (Proc.devRef .tc Cert.ReferenceIdeal.main_arg6)))
    : @Eq ((⟨Cert.KernelIdeal.S131072x32, .f32⟩ : BufTy).Contents (Elt F)) (Φ₁ (Proc.devRef .tc Cert.KernelIdeal.main_v653)) (Φ₂ (Proc.devRef .tc Cert.ReferenceIdeal.main_v656)) := by
  have e0 : @Eq ((⟨Cert.KernelIdeal.S_, .i32⟩ : BufTy).Contents (Elt F)) (Φ₁ (Proc.devRef .tc Cert.KernelIdeal.main_c_176)) (Φ₂ (Proc.devRef .tc Cert.ReferenceIdeal.main_c_176)) := step0 (β := ((⟨Cert.KernelIdeal.S_, .i32⟩ : BufTy).Contents (Elt F))) (eq0 (at_ fa0 (i := 112) rfl) :) (eq0 (at_ fb0 (i := 46) rfl) :)
  have e1 : @Eq ((⟨Cert.KernelIdeal.S2, .i32⟩ : BufTy).Contents (Elt F)) (Φ₁ (Proc.devRef .tc Cert.KernelIdeal.main_v525)) (Φ₂ (Proc.devRef .tc Cert.ReferenceIdeal.main_v528)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 47) rfl) :) e0
  have e2 : @Eq ((⟨Cert.KernelIdeal.S2, .i1⟩ : BufTy).Contents (Elt F)) (Φ₁ (Proc.devRef .tc Cert.KernelIdeal.main_v526)) (Φ₂ (Proc.devRef .tc Cert.ReferenceIdeal.main_v529)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 48) rfl) :) x0 e1
  have e3 : @Eq ((⟨Cert.KernelIdeal.S_, .i32⟩ : BufTy).Contents (Elt F)) (Φ₁ (Proc.devRef .tc Cert.KernelIdeal.main_c_177)) (Φ₂ (Proc.devRef .tc Cert.ReferenceIdeal.main_c_177)) := step0 (β := ((⟨Cert.KernelIdeal.S_, .i32⟩ : BufTy).Contents (Elt F))) (eq0 (at_ fa0 (i := 115) rfl) :) (eq0 (at_ fb0 (i := 49) rfl) :)
  have e4 : @Eq ((⟨Cert.KernelIdeal.S2, .i32⟩ : BufTy).Contents (Elt F)) (Φ₁ (Proc.devRef .tc Cert.KernelIdeal.main_v527)) (Φ₂ (Proc.devRef .tc Cert.ReferenceIdeal.main_v530)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 50) rfl) :) e3
  have e5 : @Eq ((⟨Cert.KernelIdeal.S2, .i32⟩ : BufTy).Contents (Elt F)) (Φ₁ (Proc.devRef .tc Cert.KernelIdeal.main_v528)) (Φ₂ (Proc.devRef .tc Cert.ReferenceIdeal.main_v531)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 51) rfl) :) x0 e4
  have e6 : @Eq ((⟨Cert.KernelIdeal.S2, .i32⟩ : BufTy).Contents (Elt F)) (Φ₁ (Proc.devRef .tc Cert.KernelIdeal.main_v529)) (Φ₂ (Proc.devRef .tc Cert.ReferenceIdeal.main_v532)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 52) rfl) :) e2 e5 x0
  have e7 : @Eq ((⟨Cert.KernelIdeal.S2x1, .i32⟩ : BufTy).Contents (Elt F)) (Φ₁ (Proc.devRef .tc Cert.KernelIdeal.main_v530)) (Φ₂ (Proc.devRef .tc Cert.ReferenceIdeal.main_v533)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 53) rfl) :) e6
  have e8 : @Eq ((⟨Cert.KernelIdeal.S131072x2, .f32⟩ : BufTy).Contents (Elt F)) (Φ₁ (Proc.devRef .tc Cert.KernelIdeal.main_v531)) (Φ₂ (Proc.devRef .tc Cert.ReferenceIdeal.main_v534)) := by rw [eq2 (at_ fa0 (i := 120) rfl), eq2 (at_ fb0 (i := 54) rfl), x1, e7] <;> rfl
  have e9 : @Eq ((⟨Cert.KernelIdeal.S131072x1, .f32⟩ : BufTy).Contents (Elt F)) (Φ₁ (Proc.devRef .tc Cert.KernelIdeal.main_v532)) (Φ₂ (Proc.devRef .tc Cert.ReferenceIdeal.main_v535)) := by rw [eq1 (at_ fa0 (i := 121) rfl), eq1 (at_ fb0 (i := 55) rfl), e8] <;> rfl
  have e10 : @Eq ((⟨Cert.KernelIdeal.S131072, .f32⟩ : BufTy).Contents (Elt F)) (Φ₁ (Proc.devRef .tc Cert.KernelIdeal.main_v533)) (Φ₂ (Proc.devRef .tc Cert.ReferenceIdeal.main_v536)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 56) rfl) :) e9
  have e11 : @Eq ((⟨Cert.KernelIdeal.S_, .f32⟩ : BufTy).Contents (Elt F)) (Φ₁ (Proc.devRef .tc Cert.KernelIdeal.main_cst_178)) (Φ₂ (Proc.devRef .tc Cert.ReferenceIdeal.main_cst_178)) := step0 (β := ((⟨Cert.KernelIdeal.S_, .f32⟩ : BufTy).Contents (Elt F))) (eq0 (at_ fa0 (i := 123) rfl) :) (eq0 (at_ fb0 (i := 57) rfl) :)
  have e12 : @Eq ((⟨Cert.KernelIdeal.S131072, .f32⟩ : BufTy).Contents (Elt F)) (Φ₁ (Proc.devRef .tc Cert.KernelIdeal.main_v534)) (Φ₂ (Proc.devRef .tc Cert.ReferenceIdeal.main_v537)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 58) rfl) :) e11
  have e13 : @Eq ((⟨Cert.KernelIdeal.S131072, .f32⟩ : BufTy).Contents (Elt F)) (Φ₁ (Proc.devRef .tc Cert.KernelIdeal.main_v535)) (Φ₂ (Proc.devRef .tc Cert.ReferenceIdeal.main_v538)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 59) rfl) :) e10 e12
  have e14 : @Eq ((⟨Cert.KernelIdeal.S_, .f32⟩ : BufTy).Contents (Elt F)) (Φ₁ (Proc.devRef .tc Cert.KernelIdeal.main_cst_179)) (Φ₂ (Proc.devRef .tc Cert.ReferenceIdeal.main_cst_179)) := step0 (β := ((⟨Cert.KernelIdeal.S_, .f32⟩ : BufTy).Contents (Elt F))) (eq0 (at_ fa0 (i := 126) rfl) :) (eq0 (at_ fb1 (i := 0) rfl) :)
  have e15 : @Eq ((⟨Cert.KernelIdeal.S131072, .f32⟩ : BufTy).Contents (Elt F)) (Φ₁ (Proc.devRef .tc Cert.KernelIdeal.main_v536)) (Φ₂ (Proc.devRef .tc Cert.ReferenceIdeal.main_v539)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 1) rfl) :) e14
  have e16 : @Eq ((⟨Cert.KernelIdeal.S131072, .f32⟩ : BufTy).Contents (Elt F)) (Φ₁ (Proc.devRef .tc Cert.KernelIdeal.main_v537)) (Φ₂ (Proc.devRef .tc Cert.ReferenceIdeal.main_v540)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 2) rfl) :) e13 e15
  have e17 : @Eq ((⟨Cert.KernelIdeal.S_, .f32⟩ : BufTy).Contents (Elt F)) (Φ₁ (Proc.devRef .tc Cert.KernelIdeal.main_cst_180)) (Φ₂ (Proc.devRef .tc Cert.ReferenceIdeal.main_cst_180)) := step0 (β := ((⟨Cert.KernelIdeal.S_, .f32⟩ : BufTy).Contents (Elt F))) (eq0 (at_ fa0 (i := 129) rfl) :) (eq0 (at_ fb1 (i := 3) rfl) :)
  have e18 : @Eq ((⟨Cert.KernelIdeal.S131072, .f32⟩ : BufTy).Contents (Elt F)) (Φ₁ (Proc.devRef .tc Cert.KernelIdeal.main_v538)) (Φ₂ (Proc.devRef .tc Cert.ReferenceIdeal.main_v541)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 4) rfl) :) e17
  have e19 : @Eq ((⟨Cert.KernelIdeal.S131072, .f32⟩ : BufTy).Contents (Elt F)) (Φ₁ (Proc.devRef .tc Cert.KernelIdeal.main_v539)) (Φ₂ (Proc.devRef .tc Cert.ReferenceIdeal.main_v542)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 5) rfl) :) e16 e18
  have e20 : @Eq ((⟨Cert.KernelIdeal.S131072x1, .f32⟩ : BufTy).Contents (Elt F)) (Φ₁ (Proc.devRef .tc Cert.KernelIdeal.main_v540)) (Φ₂ (Proc.devRef .tc Cert.ReferenceIdeal.main_v543)) := by rw [eq1 (at_ fa0 (i := 132) rfl), eq1 (at_ fb1 (i := 6) rfl), e8] <;> rfl
  have e21 : @Eq ((⟨Cert.KernelIdeal.S131072, .f32⟩ : BufTy).Contents (Elt F)) (Φ₁ (Proc.devRef .tc Cert.KernelIdeal.main_v541)) (Φ₂ (Proc.devRef .tc Cert.ReferenceIdeal.main_v544)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 7) rfl) :) e20
  have e22 : @Eq ((⟨Cert.KernelIdeal.S_, .f32⟩ : BufTy).Contents (Elt F)) (Φ₁ (Proc.devRef .tc Cert.KernelIdeal.main_cst_181)) (Φ₂ (Proc.devRef .tc Cert.ReferenceIdeal.main_cst_181)) := step0 (β := ((⟨Cert.KernelIdeal.S_, .f32⟩ : BufTy).Contents (Elt F))) (eq0 (at_ fa0 (i := 134) rfl) :) (eq0 (at_ fb1 (i := 8) rfl) :)
  have e23 : @Eq ((⟨Cert.KernelIdeal.S131072, .f32⟩ : BufTy).Contents (Elt F)) (Φ₁ (Proc.devRef .tc Cert.KernelIdeal.main_v542)) (Φ₂ (Proc.devRef .tc Cert.ReferenceIdeal.main_v545)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 9) rfl) :) e22
  have e24 : @Eq ((⟨Cert.KernelIdeal.S131072, .f32⟩ : BufTy).Contents (Elt F)) (Φ₁ (Proc.devRef .tc Cert.KernelIdeal.main_v543)) (Φ₂ (Proc.devRef .tc Cert.ReferenceIdeal.main_v546)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 10) rfl) :) e21 e23
  have e25 : @Eq ((⟨Cert.KernelIdeal.S_, .f32⟩ : BufTy).Contents (Elt F)) (Φ₁ (Proc.devRef .tc Cert.KernelIdeal.main_cst_182)) (Φ₂ (Proc.devRef .tc Cert.ReferenceIdeal.main_cst_182)) := step0 (β := ((⟨Cert.KernelIdeal.S_, .f32⟩ : BufTy).Contents (Elt F))) (eq0 (at_ fa0 (i := 137) rfl) :) (eq0 (at_ fb1 (i := 11) rfl) :)
  have e26 : @Eq ((⟨Cert.KernelIdeal.S131072, .f32⟩ : BufTy).Contents (Elt F)) (Φ₁ (Proc.devRef .tc Cert.KernelIdeal.main_v544)) (Φ₂ (Proc.devRef .tc Cert.ReferenceIdeal.main_v547)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 12) rfl) :) e25
  have e27 : @Eq ((⟨Cert.KernelIdeal.S131072, .f32⟩ : BufTy).Contents (Elt F)) (Φ₁ (Proc.devRef .tc Cert.KernelIdeal.main_v545)) (Φ₂ (Proc.devRef .tc Cert.ReferenceIdeal.main_v548)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 13) rfl) :) e24 e26
  have e28 : @Eq ((⟨Cert.KernelIdeal.S_, .f32⟩ : BufTy).Contents (Elt F)) (Φ₁ (Proc.devRef .tc Cert.KernelIdeal.main_cst_183)) (Φ₂ (Proc.devRef .tc Cert.ReferenceIdeal.main_cst_183)) := step0 (β := ((⟨Cert.KernelIdeal.S_, .f32⟩ : BufTy).Contents (Elt F))) (eq0 (at_ fa0 (i := 140) rfl) :) (eq0 (at_ fb1 (i := 14) rfl) :)
  have e29 : @Eq ((⟨Cert.KernelIdeal.S131072, .f32⟩ : BufTy).Contents (Elt F)) (Φ₁ (Proc.devRef .tc Cert.KernelIdeal.main_v546)) (Φ₂ (Proc.devRef .tc Cert.ReferenceIdeal.main_v549)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 15) rfl) :) e28
  have e30 : @Eq ((⟨Cert.KernelIdeal.S131072, .f32⟩ : BufTy).Contents (Elt F)) (Φ₁ (Proc.devRef .tc Cert.KernelIdeal.main_v547)) (Φ₂ (Proc.devRef .tc Cert.ReferenceIdeal.main_v550)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 16) rfl) :) e27 e29
  have e31 : @Eq ((⟨Cert.KernelIdeal.S131072, .f32⟩ : BufTy).Contents (Elt F)) (Φ₁ (Proc.devRef .tc Cert.KernelIdeal.main_v548)) (Φ₂ (Proc.devRef .tc Cert.ReferenceIdeal.main_v551)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 17) rfl) :) e19
  have e32 : @Eq ((⟨Cert.KernelIdeal.S131072, .f32⟩ : BufTy).Contents (Elt F)) (Φ₁ (Proc.devRef .tc Cert.KernelIdeal.main_v549)) (Φ₂ (Proc.devRef .tc Cert.ReferenceIdeal.main_v552)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 18) rfl) :) e30
  have e33 : @Eq ((⟨Cert.KernelIdeal.S131072, .f32⟩ : BufTy).Contents (Elt F)) (Φ₁ (Proc.devRef .tc Cert.KernelIdeal.main_v550)) (Φ₂ (Proc.devRef .tc Cert.ReferenceIdeal.main_v553)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 19) rfl) :) e19 e31
  have e34 : @Eq ((⟨Cert.KernelIdeal.S131072, .f32⟩ : BufTy).Contents (Elt F)) (Φ₁ (Proc.devRef .tc Cert.KernelIdeal.main_v551)) (Φ₂ (Proc.devRef .tc Cert.ReferenceIdeal.main_v554)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 20) rfl) :) e30 e32
  have e35 : @Eq ((⟨Cert.KernelIdeal.S131072, .i32⟩ : BufTy).Contents (Elt F)) (Φ₁ (Proc.devRef .tc Cert.KernelIdeal.main_v552)) (Φ₂ (Proc.devRef .tc Cert.ReferenceIdeal.main_v555)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 21) rfl) :) e31
  have e36 : @Eq ((⟨Cert.KernelIdeal.S_, .i32⟩ : BufTy).Contents (Elt F)) (Φ₁ (Proc.devRef .tc Cert.KernelIdeal.main_c_184)) (Φ₂ (Proc.devRef .tc Cert.ReferenceIdeal.main_c_184)) := step0 (β := ((⟨Cert.KernelIdeal.S_, .i32⟩ : BufTy).Contents (Elt F))) (eq0 (at_ fa0 (i := 148) rfl) :) (eq0 (at_ fb1 (i := 22) rfl) :)
  have e37 : @Eq ((⟨Cert.KernelIdeal.S_, .i32⟩ : BufTy).Contents (Elt F)) (Φ₁ (Proc.devRef .tc Cert.KernelIdeal.main_c_185)) (Φ₂ (Proc.devRef .tc Cert.ReferenceIdeal.main_c_185)) := step0 (β := ((⟨Cert.KernelIdeal.S_, .i32⟩ : BufTy).Contents (Elt F))) (eq0 (at_ fa0 (i := 149) rfl) :) (eq0 (at_ fb1 (i := 23) rfl) :)
  have e38 : @Eq ((⟨Cert.KernelIdeal.S_, .i32⟩ : BufTy).Contents (Elt F)) (Φ₁ (Proc.devRef .tc Cert.KernelIdeal.main_call16_v0)) (Φ₂ (Proc.devRef .tc Cert.ReferenceIdeal.main_call16_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 24) rfl) :) e36
  have e39 : @Eq ((⟨Cert.KernelIdeal.S131072, .i32⟩ : BufTy).Contents (Elt F)) (Φ₁ (Proc.devRef .tc Cert.KernelIdeal.main_call16_v1)) (Φ₂ (Proc.devRef .tc Cert.ReferenceIdeal.main_call16_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 25) rfl) :) e38
  have e40 : @Eq ((⟨Cert.KernelIdeal.S131072, .i32⟩ : BufTy).Contents (Elt F)) (Φ₁ (Proc.devRef .tc Cert.KernelIdeal.main_call16_v2)) (Φ₂ (Proc.devRef .tc Cert.ReferenceIdeal.main_call16_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 26) rfl) :) e39 e35
  have e41 : @Eq ((⟨Cert.KernelIdeal.S_, .i32⟩ : BufTy).Contents (Elt F)) (Φ₁ (Proc.devRef .tc Cert.KernelIdeal.main_call16_v3)) (Φ₂ (Proc.devRef .tc Cert.ReferenceIdeal.main_call16_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 27) rfl) :) e37
  have e42 : @Eq ((⟨Cert.KernelIdeal.S131072, .i32⟩ : BufTy).Contents (Elt F)) (Φ₁ (Proc.devRef .tc Cert.KernelIdeal.main_call16_v4)) (Φ₂ (Proc.devRef .tc Cert.ReferenceIdeal.main_call16_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 28) rfl) :) e41
  have e43 : @Eq ((⟨Cert.KernelIdeal.S131072, .i32⟩ : BufTy).Contents (Elt F)) (Φ₁ (Proc.devRef .tc Cert.KernelIdeal.main_v553)) (Φ₂ (Proc.devRef .tc Cert.ReferenceIdeal.main_v556)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 29) rfl) :) e42 e40
  have e44 : @Eq ((⟨Cert.KernelIdeal.S_, .i32⟩ : BufTy).Contents (Elt F)) (Φ₁ (Proc.devRef .tc Cert.KernelIdeal.main_c_186)) (Φ₂ (Proc.devRef .tc Cert.ReferenceIdeal.main_c_186)) := step0 (β := ((⟨Cert.KernelIdeal.S_, .i32⟩ : BufTy).Contents (Elt F))) (eq0 (at_ fa2 (i := 0) rfl) :) (eq0 (at_ fb1 (i := 30) rfl) :)
  have e45 : @Eq ((⟨Cert.KernelIdeal.S131072, .i32⟩ : BufTy).Contents (Elt F)) (Φ₁ (Proc.devRef .tc Cert.KernelIdeal.main_v554)) (Φ₂ (Proc.devRef .tc Cert.ReferenceIdeal.main_v557)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 31) rfl) :) e44
  have e46 : @Eq ((⟨Cert.KernelIdeal.S131072, .i32⟩ : BufTy).Contents (Elt F)) (Φ₁ (Proc.devRef .tc Cert.KernelIdeal.main_v555)) (Φ₂ (Proc.devRef .tc Cert.ReferenceIdeal.main_v558)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 32) rfl) :) e43 e45
  have e47 : @Eq ((⟨Cert.KernelIdeal.S_, .i32⟩ : BufTy).Contents (Elt F)) (Φ₁ (Proc.devRef .tc Cert.KernelIdeal.main_c_187)) (Φ₂ (Proc.devRef .tc Cert.ReferenceIdeal.main_c_187)) := step0 (β := ((⟨Cert.KernelIdeal.S_, .i32⟩ : BufTy).Contents (Elt F))) (eq0 (at_ fa2 (i := 3) rfl) :) (eq0 (at_ fb1 (i := 33) rfl) :)
  have e48 : @Eq ((⟨Cert.KernelIdeal.S_, .i32⟩ : BufTy).Contents (Elt F)) (Φ₁ (Proc.devRef .tc Cert.KernelIdeal.main_c_188)) (Φ₂ (Proc.devRef .tc Cert.ReferenceIdeal.main_c_188)) := step0 (β := ((⟨Cert.KernelIdeal.S_, .i32⟩ : BufTy).Contents (Elt F))) (eq0 (at_ fa2 (i := 4) rfl) :) (eq0 (at_ fb1 (i := 34) rfl) :)
  have e49 : @Eq ((⟨Cert.KernelIdeal.S_, .i32⟩ : BufTy).Contents (Elt F)) (Φ₁ (Proc.devRef .tc Cert.KernelIdeal.main_call17_v0)) (Φ₂ (Proc.devRef .tc Cert.ReferenceIdeal.main_call17_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 35) rfl) :) e47
  have e50 : @Eq ((⟨Cert.KernelIdeal.S131072, .i32⟩ : BufTy).Contents (Elt F)) (Φ₁ (Proc.devRef .tc Cert.KernelIdeal.main_call17_v1)) (Φ₂ (Proc.devRef .tc Cert.ReferenceIdeal.main_call17_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 36) rfl) :) e49
  have e51 : @Eq ((⟨Cert.KernelIdeal.S131072, .i32⟩ : BufTy).Contents (Elt F)) (Φ₁ (Proc.devRef .tc Cert.KernelIdeal.main_call17_v2)) (Φ₂ (Proc.devRef .tc Cert.ReferenceIdeal.main_call17_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 37) rfl) :) e50 e46
  have e52 : @Eq ((⟨Cert.KernelIdeal.S_, .i32⟩ : BufTy).Contents (Elt F)) (Φ₁ (Proc.devRef .tc Cert.KernelIdeal.main_call17_v3)) (Φ₂ (Proc.devRef .tc Cert.ReferenceIdeal.main_call17_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 38) rfl) :) e48
  have e53 : @Eq ((⟨Cert.KernelIdeal.S131072, .i32⟩ : BufTy).Contents (Elt F)) (Φ₁ (Proc.devRef .tc Cert.KernelIdeal.main_call17_v4)) (Φ₂ (Proc.devRef .tc Cert.ReferenceIdeal.main_call17_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 39) rfl) :) e52
  have e54 : @Eq ((⟨Cert.KernelIdeal.S131072, .i32⟩ : BufTy).Contents (Elt F)) (Φ₁ (Proc.devRef .tc Cert.KernelIdeal.main_v556)) (Φ₂ (Proc.devRef .tc Cert.ReferenceIdeal.main_v559)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 40) rfl) :) e53 e51
  have e55 : @Eq ((⟨Cert.KernelIdeal.S131072, .i32⟩ : BufTy).Contents (Elt F)) (Φ₁ (Proc.devRef .tc Cert.KernelIdeal.main_v557)) (Φ₂ (Proc.devRef .tc Cert.ReferenceIdeal.main_v560)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 41) rfl) :) e32
  have e56 : @Eq ((⟨Cert.KernelIdeal.S_, .i32⟩ : BufTy).Contents (Elt F)) (Φ₁ (Proc.devRef .tc Cert.KernelIdeal.main_c_189)) (Φ₂ (Proc.devRef .tc Cert.ReferenceIdeal.main_c_189)) := step0 (β := ((⟨Cert.KernelIdeal.S_, .i32⟩ : BufTy).Contents (Elt F))) (eq0 (at_ fa4 (i := 1) rfl) :) (eq0 (at_ fb1 (i := 42) rfl) :)
  have e57 : @Eq ((⟨Cert.KernelIdeal.S_, .i32⟩ : BufTy).Contents (Elt F)) (Φ₁ (Proc.devRef .tc Cert.KernelIdeal.main_c_190)) (Φ₂ (Proc.devRef .tc Cert.ReferenceIdeal.main_c_190)) := step0 (β := ((⟨Cert.KernelIdeal.S_, .i32⟩ : BufTy).Contents (Elt F))) (eq0 (at_ fa4 (i := 2) rfl) :) (eq0 (at_ fb1 (i := 43) rfl) :)
  have e58 : @Eq ((⟨Cert.KernelIdeal.S_, .i32⟩ : BufTy).Contents (Elt F)) (Φ₁ (Proc.devRef .tc Cert.KernelIdeal.main_call18_v0)) (Φ₂ (Proc.devRef .tc Cert.ReferenceIdeal.main_call18_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 44) rfl) :) e56
  have e59 : @Eq ((⟨Cert.KernelIdeal.S131072, .i32⟩ : BufTy).Contents (Elt F)) (Φ₁ (Proc.devRef .tc Cert.KernelIdeal.main_call18_v1)) (Φ₂ (Proc.devRef .tc Cert.ReferenceIdeal.main_call18_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 45) rfl) :) e58
  have e60 : @Eq ((⟨Cert.KernelIdeal.S131072, .i32⟩ : BufTy).Contents (Elt F)) (Φ₁ (Proc.devRef .tc Cert.KernelIdeal.main_call18_v2)) (Φ₂ (Proc.devRef .tc Cert.ReferenceIdeal.main_call18_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 46) rfl) :) e59 e55
  have e61 : @Eq ((⟨Cert.KernelIdeal.S_, .i32⟩ : BufTy).Contents (Elt F)) (Φ₁ (Proc.devRef .tc Cert.KernelIdeal.main_call18_v3)) (Φ₂ (Proc.devRef .tc Cert.ReferenceIdeal.main_call18_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 47) rfl) :) e57
  have e62 : @Eq ((⟨Cert.KernelIdeal.S131072, .i32⟩ : BufTy).Contents (Elt F)) (Φ₁ (Proc.devRef .tc Cert.KernelIdeal.main_call18_v4)) (Φ₂ (Proc.devRef .tc Cert.ReferenceIdeal.main_call18_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 48) rfl) :) e61
  have e63 : @Eq ((⟨Cert.KernelIdeal.S131072, .i32⟩ : BufTy).Contents (Elt F)) (Φ₁ (Proc.devRef .tc Cert.KernelIdeal.main_v558)) (Φ₂ (Proc.devRef .tc Cert.ReferenceIdeal.main_v561)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 49) rfl) :) e62 e60
  have e64 : @Eq ((⟨Cert.KernelIdeal.S_, .i32⟩ : BufTy).Contents (Elt F)) (Φ₁ (Proc.devRef .tc Cert.KernelIdeal.main_c_191)) (Φ₂ (Proc.devRef .tc Cert.ReferenceIdeal.main_c_191)) := step0 (β := ((⟨Cert.KernelIdeal.S_, .i32⟩ : BufTy).Contents (Elt F))) (eq0 (at_ fa6 (i := 0) rfl) :) (eq0 (at_ fb1 (i := 50) rfl) :)
  have e65 : @Eq ((⟨Cert.KernelIdeal.S131072, .i32⟩ : BufTy).Contents (Elt F)) (Φ₁ (Proc.devRef .tc Cert.KernelIdeal.main_v559)) (Φ₂ (Proc.devRef .tc Cert.ReferenceIdeal.main_v562)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 51) rfl) :) e64
  have e66 : @Eq ((⟨Cert.KernelIdeal.S131072, .i32⟩ : BufTy).Contents (Elt F)) (Φ₁ (Proc.devRef .tc Cert.KernelIdeal.main_v560)) (Φ₂ (Proc.devRef .tc Cert.ReferenceIdeal.main_v563)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 52) rfl) :) e63 e65
  have e67 : @Eq ((⟨Cert.KernelIdeal.S_, .i32⟩ : BufTy).Contents (Elt F)) (Φ₁ (Proc.devRef .tc Cert.KernelIdeal.main_c_192)) (Φ₂ (Proc.devRef .tc Cert.ReferenceIdeal.main_c_192)) := step0 (β := ((⟨Cert.KernelIdeal.S_, .i32⟩ : BufTy).Contents (Elt F))) (eq0 (at_ fa6 (i := 3) rfl) :) (eq0 (at_ fb1 (i := 53) rfl) :)
  have e68 : @Eq ((⟨Cert.KernelIdeal.S_, .i32⟩ : BufTy).Contents (Elt F)) (Φ₁ (Proc.devRef .tc Cert.KernelIdeal.main_c_193)) (Φ₂ (Proc.devRef .tc Cert.ReferenceIdeal.main_c_193)) := step0 (β := ((⟨Cert.KernelIdeal.S_, .i32⟩ : BufTy).Contents (Elt F))) (eq0 (at_ fa6 (i := 4) rfl) :) (eq0 (at_ fb1 (i := 54) rfl) :)
  have e69 : @Eq ((⟨Cert.KernelIdeal.S_, .i32⟩ : BufTy).Contents (Elt F)) (Φ₁ (Proc.devRef .tc Cert.KernelIdeal.main_call19_v0)) (Φ₂ (Proc.devRef .tc Cert.ReferenceIdeal.main_call19_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 55) rfl) :) e67
  have e70 : @Eq ((⟨Cert.KernelIdeal.S131072, .i32⟩ : BufTy).Contents (Elt F)) (Φ₁ (Proc.devRef .tc Cert.KernelIdeal.main_call19_v1)) (Φ₂ (Proc.devRef .tc Cert.ReferenceIdeal.main_call19_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 56) rfl) :) e69
  have e71 : @Eq ((⟨Cert.KernelIdeal.S131072, .i32⟩ : BufTy).Contents (Elt F)) (Φ₁ (Proc.devRef .tc Cert.KernelIdeal.main_call19_v2)) (Φ₂ (Proc.devRef .tc Cert.ReferenceIdeal.main_call19_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 57) rfl) :) e70 e66
  have e72 : @Eq ((⟨Cert.KernelIdeal.S_, .i32⟩ : BufTy).Contents (Elt F)) (Φ₁ (Proc.devRef .tc Cert.KernelIdeal.main_call19_v3)) (Φ₂ (Proc.devRef .tc Cert.ReferenceIdeal.main_call19_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 58) rfl) :) e68
  have e73 : @Eq ((⟨Cert.KernelIdeal.S131072, .i32⟩ : BufTy).Contents (Elt F)) (Φ₁ (Proc.devRef .tc Cert.KernelIdeal.main_call19_v4)) (Φ₂ (Proc.devRef .tc Cert.ReferenceIdeal.main_call19_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 59) rfl) :) e72
  have e74 : @Eq ((⟨Cert.KernelIdeal.S131072, .i32⟩ : BufTy).Contents (Elt F)) (Φ₁ (Proc.devRef .tc Cert.KernelIdeal.main_v561)) (Φ₂ (Proc.devRef .tc Cert.ReferenceIdeal.main_v564)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 60) rfl) :) e73 e71
  have e75 : @Eq ((⟨Cert.KernelIdeal.S_, .i32⟩ : BufTy).Contents (Elt F)) (Φ₁ (Proc.devRef .tc Cert.KernelIdeal.main_c_194)) (Φ₂ (Proc.devRef .tc Cert.ReferenceIdeal.main_c_194)) := step0 (β := ((⟨Cert.KernelIdeal.S_, .i32⟩ : BufTy).Contents (Elt F))) (eq0 (at_ fa8 (i := 0) rfl) :) (eq0 (at_ fb1 (i := 61) rfl) :)
  have e76 : @Eq ((⟨Cert.KernelIdeal.S131072, .i32⟩ : BufTy).Contents (Elt F)) (Φ₁ (Proc.devRef .tc Cert.KernelIdeal.main_v562)) (Φ₂ (Proc.devRef .tc Cert.ReferenceIdeal.main_v565)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 62) rfl) :) e75
  have e77 : @Eq ((⟨Cert.KernelIdeal.S131072, .i1⟩ : BufTy).Contents (Elt F)) (Φ₁ (Proc.devRef .tc Cert.KernelIdeal.main_v563)) (Φ₂ (Proc.devRef .tc Cert.ReferenceIdeal.main_v566)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 63) rfl) :) e63 e76
  have e78 : @Eq ((⟨Cert.KernelIdeal.S_, .i32⟩ : BufTy).Contents (Elt F)) (Φ₁ (Proc.devRef .tc Cert.KernelIdeal.main_c_195)) (Φ₂ (Proc.devRef .tc Cert.ReferenceIdeal.main_c_195)) := step0 (β := ((⟨Cert.KernelIdeal.S_, .i32⟩ : BufTy).Contents (Elt F))) (eq0 (at_ fa8 (i := 3) rfl) :) (eq0 (at_ fb1 (i := 64) rfl) :)
  have e79 : @Eq ((⟨Cert.KernelIdeal.S131072, .i32⟩ : BufTy).Contents (Elt F)) (Φ₁ (Proc.devRef .tc Cert.KernelIdeal.main_v564)) (Φ₂ (Proc.devRef .tc Cert.ReferenceIdeal.main_v567)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 65) rfl) :) e78
  have e80 : @Eq ((⟨Cert.KernelIdeal.S131072, .i32⟩ : BufTy).Contents (Elt F)) (Φ₁ (Proc.devRef .tc Cert.KernelIdeal.main_v565)) (Φ₂ (Proc.devRef .tc Cert.ReferenceIdeal.main_v568)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 66) rfl) :) e63 e79
  have e81 : @Eq ((⟨Cert.KernelIdeal.S131072, .i32⟩ : BufTy).Contents (Elt F)) (Φ₁ (Proc.devRef .tc Cert.KernelIdeal.main_v566)) (Φ₂ (Proc.devRef .tc Cert.ReferenceIdeal.main_v569)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 67) rfl) :) e77 e80 e63
  have e82 : @Eq ((⟨Cert.KernelIdeal.S_, .i32⟩ : BufTy).Contents (Elt F)) (Φ₁ (Proc.devRef .tc Cert.KernelIdeal.main_c_196)) (Φ₂ (Proc.devRef .tc Cert.ReferenceIdeal.main_c_196)) := step0 (β := ((⟨Cert.KernelIdeal.S_, .i32⟩ : BufTy).Contents (Elt F))) (eq0 (at_ fa8 (i := 7) rfl) :) (eq0 (at_ fb1 (i := 68) rfl) :)
  have e83 : @Eq ((⟨Cert.KernelIdeal.S131072, .i32⟩ : BufTy).Contents (Elt F)) (Φ₁ (Proc.devRef .tc Cert.KernelIdeal.main_v567)) (Φ₂ (Proc.devRef .tc Cert.ReferenceIdeal.main_v570)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 69) rfl) :) e82
  have e84 : @Eq ((⟨Cert.KernelIdeal.S131072, .i1⟩ : BufTy).Contents (Elt F)) (Φ₁ (Proc.devRef .tc Cert.KernelIdeal.main_v568)) (Φ₂ (Proc.devRef .tc Cert.ReferenceIdeal.main_v571)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 70) rfl) :) e43 e83
  have e85 : @Eq ((⟨Cert.KernelIdeal.S_, .i32⟩ : BufTy).Contents (Elt F)) (Φ₁ (Proc.devRef .tc Cert.KernelIdeal.main_c_197)) (Φ₂ (Proc.devRef .tc Cert.ReferenceIdeal.main_c_197)) := step0 (β := ((⟨Cert.KernelIdeal.S_, .i32⟩ : BufTy).Contents (Elt F))) (eq0 (at_ fa8 (i := 10) rfl) :) (eq0 (at_ fb1 (i := 71) rfl) :)
  have e86 : @Eq ((⟨Cert.KernelIdeal.S131072, .i32⟩ : BufTy).Contents (Elt F)) (Φ₁ (Proc.devRef .tc Cert.KernelIdeal.main_v569)) (Φ₂ (Proc.devRef .tc Cert.ReferenceIdeal.main_v572)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 72) rfl) :) e85
  have e87 : @Eq ((⟨Cert.KernelIdeal.S131072, .i32⟩ : BufTy).Contents (Elt F)) (Φ₁ (Proc.devRef .tc Cert.KernelIdeal.main_v570)) (Φ₂ (Proc.devRef .tc Cert.ReferenceIdeal.main_v573)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 73) rfl) :) e43 e86
  have e88 : @Eq ((⟨Cert.KernelIdeal.S131072, .i32⟩ : BufTy).Contents (Elt F)) (Φ₁ (Proc.devRef .tc Cert.KernelIdeal.main_v571)) (Φ₂ (Proc.devRef .tc Cert.ReferenceIdeal.main_v574)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 74) rfl) :) e84 e87 e43
  have e89 : @Eq ((⟨Cert.KernelIdeal.S131072x1, .i32⟩ : BufTy).Contents (Elt F)) (Φ₁ (Proc.devRef .tc Cert.KernelIdeal.main_v572)) (Φ₂ (Proc.devRef .tc Cert.ReferenceIdeal.main_v575)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 75) rfl) :) e81
  have e90 : @Eq ((⟨Cert.KernelIdeal.S131072x1, .i32⟩ : BufTy).Contents (Elt F)) (Φ₁ (Proc.devRef .tc Cert.KernelIdeal.main_v573)) (Φ₂ (Proc.devRef .tc Cert.ReferenceIdeal.main_v576)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 76) rfl) :) e88
  have e91 : @Eq ((⟨Cert.KernelIdeal.S131072x2, .i32⟩ : BufTy).Contents (Elt F)) (Φ₁ (Proc.devRef .tc Cert.KernelIdeal.main_v574)) (Φ₂ (Proc.devRef .tc Cert.ReferenceIdeal.main_v577)) := by rw [eq2 (at_ fa8 (i := 16) rfl), eq2 (at_ fb1 (i := 77) rfl), e89, e90] <;> rfl
  have e92 : @Eq ((⟨Cert.KernelIdeal.S32x131072, .f32⟩ : BufTy).Contents (Elt F)) (Φ₁ (Proc.devRef .tc Cert.KernelIdeal.main_v575)) (Φ₂ (Proc.devRef .tc Cert.ReferenceIdeal.main_v578)) := by rw [eq2 (at_ fa8 (i := 17) rfl), eq2 (at_ fb1 (i := 78) rfl), x2, e91] <;> rfl
  have e93 : @Eq ((⟨Cert.KernelIdeal.S_, .i32⟩ : BufTy).Contents (Elt F)) (Φ₁ (Proc.devRef .tc Cert.KernelIdeal.main_c_198)) (Φ₂ (Proc.devRef .tc Cert.ReferenceIdeal.main_c_198)) := step0 (β := ((⟨Cert.KernelIdeal.S_, .i32⟩ : BufTy).Contents (Elt F))) (eq0 (at_ fa8 (i := 18) rfl) :) (eq0 (at_ fb1 (i := 79) rfl) :)
  have e94 : @Eq ((⟨Cert.KernelIdeal.S131072, .i32⟩ : BufTy).Contents (Elt F)) (Φ₁ (Proc.devRef .tc Cert.KernelIdeal.main_v576)) (Φ₂ (Proc.devRef .tc Cert.ReferenceIdeal.main_v579)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb2 (i := 0) rfl) :) e93
  have e95 : @Eq ((⟨Cert.KernelIdeal.S131072, .i1⟩ : BufTy).Contents (Elt F)) (Φ₁ (Proc.devRef .tc Cert.KernelIdeal.main_v577)) (Φ₂ (Proc.devRef .tc Cert.ReferenceIdeal.main_v580)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 1) rfl) :) e63 e94
  have e96 : @Eq ((⟨Cert.KernelIdeal.S_, .i32⟩ : BufTy).Contents (Elt F)) (Φ₁ (Proc.devRef .tc Cert.KernelIdeal.main_c_199)) (Φ₂ (Proc.devRef .tc Cert.ReferenceIdeal.main_c_199)) := step0 (β := ((⟨Cert.KernelIdeal.S_, .i32⟩ : BufTy).Contents (Elt F))) (eq0 (at_ fa8 (i := 21) rfl) :) (eq0 (at_ fb2 (i := 2) rfl) :)
  have e97 : @Eq ((⟨Cert.KernelIdeal.S131072, .i32⟩ : BufTy).Contents (Elt F)) (Φ₁ (Proc.devRef .tc Cert.KernelIdeal.main_v578)) (Φ₂ (Proc.devRef .tc Cert.ReferenceIdeal.main_v581)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 3) rfl) :) e96
  have e98 : @Eq ((⟨Cert.KernelIdeal.S131072, .i32⟩ : BufTy).Contents (Elt F)) (Φ₁ (Proc.devRef .tc Cert.KernelIdeal.main_v579)) (Φ₂ (Proc.devRef .tc Cert.ReferenceIdeal.main_v582)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 4) rfl) :) e63 e97
  have e99 : @Eq ((⟨Cert.KernelIdeal.S131072, .i32⟩ : BufTy).Contents (Elt F)) (Φ₁ (Proc.devRef .tc Cert.KernelIdeal.main_v580)) (Φ₂ (Proc.devRef .tc Cert.ReferenceIdeal.main_v583)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 5) rfl) :) e95 e98 e63
  have e100 : @Eq ((⟨Cert.KernelIdeal.S_, .i32⟩ : BufTy).Contents (Elt F)) (Φ₁ (Proc.devRef .tc Cert.KernelIdeal.main_c_200)) (Φ₂ (Proc.devRef .tc Cert.ReferenceIdeal.main_c_200)) := step0 (β := ((⟨Cert.KernelIdeal.S_, .i32⟩ : BufTy).Contents (Elt F))) (eq0 (at_ fa8 (i := 25) rfl) :) (eq0 (at_ fb2 (i := 6) rfl) :)
  have e101 : @Eq ((⟨Cert.KernelIdeal.S131072, .i32⟩ : BufTy).Contents (Elt F)) (Φ₁ (Proc.devRef .tc Cert.KernelIdeal.main_v581)) (Φ₂ (Proc.devRef .tc Cert.ReferenceIdeal.main_v584)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 7) rfl) :) e100
  have e102 : @Eq ((⟨Cert.KernelIdeal.S131072, .i1⟩ : BufTy).Contents (Elt F)) (Φ₁ (Proc.devRef .tc Cert.KernelIdeal.main_v582)) (Φ₂ (Proc.devRef .tc Cert.ReferenceIdeal.main_v585)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 8) rfl) :) e54 e101
  have e103 : @Eq ((⟨Cert.KernelIdeal.S_, .i32⟩ : BufTy).Contents (Elt F)) (Φ₁ (Proc.devRef .tc Cert.KernelIdeal.main_c_201)) (Φ₂ (Proc.devRef .tc Cert.ReferenceIdeal.main_c_201)) := step0 (β := ((⟨Cert.KernelIdeal.S_, .i32⟩ : BufTy).Contents (Elt F))) (eq0 (at_ fa8 (i := 28) rfl) :) (eq0 (at_ fb2 (i := 9) rfl) :)
  have e104 : @Eq ((⟨Cert.KernelIdeal.S131072, .i32⟩ : BufTy).Contents (Elt F)) (Φ₁ (Proc.devRef .tc Cert.KernelIdeal.main_v583)) (Φ₂ (Proc.devRef .tc Cert.ReferenceIdeal.main_v586)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 10) rfl) :) e103
  have e105 : @Eq ((⟨Cert.KernelIdeal.S131072, .i32⟩ : BufTy).Contents (Elt F)) (Φ₁ (Proc.devRef .tc Cert.KernelIdeal.main_v584)) (Φ₂ (Proc.devRef .tc Cert.ReferenceIdeal.main_v587)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 11) rfl) :) e54 e104
  have e106 : @Eq ((⟨Cert.KernelIdeal.S131072, .i32⟩ : BufTy).Contents (Elt F)) (Φ₁ (Proc.devRef .tc Cert.KernelIdeal.main_v585)) (Φ₂ (Proc.devRef .tc Cert.ReferenceIdeal.main_v588)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 12) rfl) :) e102 e105 e54
  have e107 : @Eq ((⟨Cert.KernelIdeal.S131072x1, .i32⟩ : BufTy).Contents (Elt F)) (Φ₁ (Proc.devRef .tc Cert.KernelIdeal.main_v586)) (Φ₂ (Proc.devRef .tc Cert.ReferenceIdeal.main_v589)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 13) rfl) :) e99
  have e108 : @Eq ((⟨Cert.KernelIdeal.S131072x1, .i32⟩ : BufTy).Contents (Elt F)) (Φ₁ (Proc.devRef .tc Cert.KernelIdeal.main_v587)) (Φ₂ (Proc.devRef .tc Cert.ReferenceIdeal.main_v590)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 14) rfl) :) e106
  have e109 : @Eq ((⟨Cert.KernelIdeal.S131072x2, .i32⟩ : BufTy).Contents (Elt F)) (Φ₁ (Proc.devRef .tc Cert.KernelIdeal.main_v588)) (Φ₂ (Proc.devRef .tc Cert.ReferenceIdeal.main_v591)) := by rw [eq2 (at_ fa8 (i := 34) rfl), eq2 (at_ fb2 (i := 15) rfl), e107, e108] <;> rfl
  have e110 : @Eq ((⟨Cert.KernelIdeal.S32x131072, .f32⟩ : BufTy).Contents (Elt F)) (Φ₁ (Proc.devRef .tc Cert.KernelIdeal.main_v589)) (Φ₂ (Proc.devRef .tc Cert.ReferenceIdeal.main_v592)) := by rw [eq2 (at_ fa8 (i := 35) rfl), eq2 (at_ fb2 (i := 16) rfl), x2, e109] <;> rfl
  have e111 : @Eq ((⟨Cert.KernelIdeal.S_, .i32⟩ : BufTy).Contents (Elt F)) (Φ₁ (Proc.devRef .tc Cert.KernelIdeal.main_c_202)) (Φ₂ (Proc.devRef .tc Cert.ReferenceIdeal.main_c_202)) := step0 (β := ((⟨Cert.KernelIdeal.S_, .i32⟩ : BufTy).Contents (Elt F))) (eq0 (at_ fa8 (i := 36) rfl) :) (eq0 (at_ fb2 (i := 17) rfl) :)
  have e112 : @Eq ((⟨Cert.KernelIdeal.S131072, .i32⟩ : BufTy).Contents (Elt F)) (Φ₁ (Proc.devRef .tc Cert.KernelIdeal.main_v590)) (Φ₂ (Proc.devRef .tc Cert.ReferenceIdeal.main_v593)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 18) rfl) :) e111
  have e113 : @Eq ((⟨Cert.KernelIdeal.S131072, .i1⟩ : BufTy).Contents (Elt F)) (Φ₁ (Proc.devRef .tc Cert.KernelIdeal.main_v591)) (Φ₂ (Proc.devRef .tc Cert.ReferenceIdeal.main_v594)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 19) rfl) :) e74 e112
  have e114 : @Eq ((⟨Cert.KernelIdeal.S_, .i32⟩ : BufTy).Contents (Elt F)) (Φ₁ (Proc.devRef .tc Cert.KernelIdeal.main_c_203)) (Φ₂ (Proc.devRef .tc Cert.ReferenceIdeal.main_c_203)) := step0 (β := ((⟨Cert.KernelIdeal.S_, .i32⟩ : BufTy).Contents (Elt F))) (eq0 (at_ fa8 (i := 39) rfl) :) (eq0 (at_ fb2 (i := 20) rfl) :)
  have e115 : @Eq ((⟨Cert.KernelIdeal.S131072, .i32⟩ : BufTy).Contents (Elt F)) (Φ₁ (Proc.devRef .tc Cert.KernelIdeal.main_v592)) (Φ₂ (Proc.devRef .tc Cert.ReferenceIdeal.main_v595)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 21) rfl) :) e114
  have e116 : @Eq ((⟨Cert.KernelIdeal.S131072, .i32⟩ : BufTy).Contents (Elt F)) (Φ₁ (Proc.devRef .tc Cert.KernelIdeal.main_v593)) (Φ₂ (Proc.devRef .tc Cert.ReferenceIdeal.main_v596)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 22) rfl) :) e74 e115
  have e117 : @Eq ((⟨Cert.KernelIdeal.S131072, .i32⟩ : BufTy).Contents (Elt F)) (Φ₁ (Proc.devRef .tc Cert.KernelIdeal.main_v594)) (Φ₂ (Proc.devRef .tc Cert.ReferenceIdeal.main_v597)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 23) rfl) :) e113 e116 e74
  have e118 : @Eq ((⟨Cert.KernelIdeal.S_, .i32⟩ : BufTy).Contents (Elt F)) (Φ₁ (Proc.devRef .tc Cert.KernelIdeal.main_c_204)) (Φ₂ (Proc.devRef .tc Cert.ReferenceIdeal.main_c_204)) := step0 (β := ((⟨Cert.KernelIdeal.S_, .i32⟩ : BufTy).Contents (Elt F))) (eq0 (at_ fa8 (i := 43) rfl) :) (eq0 (at_ fb2 (i := 24) rfl) :)
  have e119 : @Eq ((⟨Cert.KernelIdeal.S131072, .i32⟩ : BufTy).Contents (Elt F)) (Φ₁ (Proc.devRef .tc Cert.KernelIdeal.main_v595)) (Φ₂ (Proc.devRef .tc Cert.ReferenceIdeal.main_v598)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 25) rfl) :) e118
  have e120 : @Eq ((⟨Cert.KernelIdeal.S131072, .i1⟩ : BufTy).Contents (Elt F)) (Φ₁ (Proc.devRef .tc Cert.KernelIdeal.main_v596)) (Φ₂ (Proc.devRef .tc Cert.ReferenceIdeal.main_v599)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 26) rfl) :) e43 e119
  have e121 : @Eq ((⟨Cert.KernelIdeal.S_, .i32⟩ : BufTy).Contents (Elt F)) (Φ₁ (Proc.devRef .tc Cert.KernelIdeal.main_c_205)) (Φ₂ (Proc.devRef .tc Cert.ReferenceIdeal.main_c_205)) := step0 (β := ((⟨Cert.KernelIdeal.S_, .i32⟩ : BufTy).Contents (Elt F))) (eq0 (at_ fa8 (i := 46) rfl) :) (eq0 (at_ fb2 (i := 27) rfl) :)
  have e122 : @Eq ((⟨Cert.KernelIdeal.S131072, .i32⟩ : BufTy).Contents (Elt F)) (Φ₁ (Proc.devRef .tc Cert.KernelIdeal.main_v597)) (Φ₂ (Proc.devRef .tc Cert.ReferenceIdeal.main_v600)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 28) rfl) :) e121
  have e123 : @Eq ((⟨Cert.KernelIdeal.S131072, .i32⟩ : BufTy).Contents (Elt F)) (Φ₁ (Proc.devRef .tc Cert.KernelIdeal.main_v598)) (Φ₂ (Proc.devRef .tc Cert.ReferenceIdeal.main_v601)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 29) rfl) :) e43 e122
  have e124 : @Eq ((⟨Cert.KernelIdeal.S131072, .i32⟩ : BufTy).Contents (Elt F)) (Φ₁ (Proc.devRef .tc Cert.KernelIdeal.main_v599)) (Φ₂ (Proc.devRef .tc Cert.ReferenceIdeal.main_v602)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 30) rfl) :) e120 e123 e43
  have e125 : @Eq ((⟨Cert.KernelIdeal.S131072x1, .i32⟩ : BufTy).Contents (Elt F)) (Φ₁ (Proc.devRef .tc Cert.KernelIdeal.main_v600)) (Φ₂ (Proc.devRef .tc Cert.ReferenceIdeal.main_v603)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 31) rfl) :) e117
  have e126 : @Eq ((⟨Cert.KernelIdeal.S131072x1, .i32⟩ : BufTy).Contents (Elt F)) (Φ₁ (Proc.devRef .tc Cert.KernelIdeal.main_v601)) (Φ₂ (Proc.devRef .tc Cert.ReferenceIdeal.main_v604)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 32) rfl) :) e124
  have e127 : @Eq ((⟨Cert.KernelIdeal.S131072x2, .i32⟩ : BufTy).Contents (Elt F)) (Φ₁ (Proc.devRef .tc Cert.KernelIdeal.main_v602)) (Φ₂ (Proc.devRef .tc Cert.ReferenceIdeal.main_v605)) := by rw [eq2 (at_ fa8 (i := 52) rfl), eq2 (at_ fb2 (i := 33) rfl), e125, e126] <;> rfl
  have e128 : @Eq ((⟨Cert.KernelIdeal.S32x131072, .f32⟩ : BufTy).Contents (Elt F)) (Φ₁ (Proc.devRef .tc Cert.KernelIdeal.main_v603)) (Φ₂ (Proc.devRef .tc Cert.ReferenceIdeal.main_v606)) := by rw [eq2 (at_ fa8 (i := 53) rfl), eq2 (at_ fb2 (i := 34) rfl), x2, e127] <;> rfl
  have e129 : @Eq ((⟨Cert.KernelIdeal.S_, .i32⟩ : BufTy).Contents (Elt F)) (Φ₁ (Proc.devRef .tc Cert.KernelIdeal.main_c_206)) (Φ₂ (Proc.devRef .tc Cert.ReferenceIdeal.main_c_206)) := step0 (β := ((⟨Cert.KernelIdeal.S_, .i32⟩ : BufTy).Contents (Elt F))) (eq0 (at_ fa8 (i := 54) rfl) :) (eq0 (at_ fb2 (i := 35) rfl) :)
  have e130 : @Eq ((⟨Cert.KernelIdeal.S131072, .i32⟩ : BufTy).Contents (Elt F)) (Φ₁ (Proc.devRef .tc Cert.KernelIdeal.main_v604)) (Φ₂ (Proc.devRef .tc Cert.ReferenceIdeal.main_v607)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 36) rfl) :) e129
  have e131 : @Eq ((⟨Cert.KernelIdeal.S131072, .i1⟩ : BufTy).Contents (Elt F)) (Φ₁ (Proc.devRef .tc Cert.KernelIdeal.main_v605)) (Φ₂ (Proc.devRef .tc Cert.ReferenceIdeal.main_v608)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 37) rfl) :) e74 e130
  have e132 : @Eq ((⟨Cert.KernelIdeal.S_, .i32⟩ : BufTy).Contents (Elt F)) (Φ₁ (Proc.devRef .tc Cert.KernelIdeal.main_c_207)) (Φ₂ (Proc.devRef .tc Cert.ReferenceIdeal.main_c_207)) := step0 (β := ((⟨Cert.KernelIdeal.S_, .i32⟩ : BufTy).Contents (Elt F))) (eq0 (at_ fa8 (i := 57) rfl) :) (eq0 (at_ fb2 (i := 38) rfl) :)
  have e133 : @Eq ((⟨Cert.KernelIdeal.S131072, .i32⟩ : BufTy).Contents (Elt F)) (Φ₁ (Proc.devRef .tc Cert.KernelIdeal.main_v606)) (Φ₂ (Proc.devRef .tc Cert.ReferenceIdeal.main_v609)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 39) rfl) :) e132
  have e134 : @Eq ((⟨Cert.KernelIdeal.S131072, .i32⟩ : BufTy).Contents (Elt F)) (Φ₁ (Proc.devRef .tc Cert.KernelIdeal.main_v607)) (Φ₂ (Proc.devRef .tc Cert.ReferenceIdeal.main_v610)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 40) rfl) :) e74 e133
  have e135 : @Eq ((⟨Cert.KernelIdeal.S131072, .i32⟩ : BufTy).Contents (Elt F)) (Φ₁ (Proc.devRef .tc Cert.KernelIdeal.main_v608)) (Φ₂ (Proc.devRef .tc Cert.ReferenceIdeal.main_v611)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 41) rfl) :) e131 e134 e74
  have e136 : @Eq ((⟨Cert.KernelIdeal.S_, .i32⟩ : BufTy).Contents (Elt F)) (Φ₁ (Proc.devRef .tc Cert.KernelIdeal.main_c_208)) (Φ₂ (Proc.devRef .tc Cert.ReferenceIdeal.main_c_208)) := step0 (β := ((⟨Cert.KernelIdeal.S_, .i32⟩ : BufTy).Contents (Elt F))) (eq0 (at_ fa8 (i := 61) rfl) :) (eq0 (at_ fb2 (i := 42) rfl) :)
  have e137 : @Eq ((⟨Cert.KernelIdeal.S131072, .i32⟩ : BufTy).Contents (Elt F)) (Φ₁ (Proc.devRef .tc Cert.KernelIdeal.main_v609)) (Φ₂ (Proc.devRef .tc Cert.ReferenceIdeal.main_v612)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 43) rfl) :) e136
  have e138 : @Eq ((⟨Cert.KernelIdeal.S131072, .i1⟩ : BufTy).Contents (Elt F)) (Φ₁ (Proc.devRef .tc Cert.KernelIdeal.main_v610)) (Φ₂ (Proc.devRef .tc Cert.ReferenceIdeal.main_v613)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 44) rfl) :) e54 e137
  have e139 : @Eq ((⟨Cert.KernelIdeal.S_, .i32⟩ : BufTy).Contents (Elt F)) (Φ₁ (Proc.devRef .tc Cert.KernelIdeal.main_c_209)) (Φ₂ (Proc.devRef .tc Cert.ReferenceIdeal.main_c_209)) := step0 (β := ((⟨Cert.KernelIdeal.S_, .i32⟩ : BufTy).Contents (Elt F))) (eq0 (at_ fa8 (i := 64) rfl) :) (eq0 (at_ fb2 (i := 45) rfl) :)
  have e140 : @Eq ((⟨Cert.KernelIdeal.S131072, .i32⟩ : BufTy).Contents (Elt F)) (Φ₁ (Proc.devRef .tc Cert.KernelIdeal.main_v611)) (Φ₂ (Proc.devRef .tc Cert.ReferenceIdeal.main_v614)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 46) rfl) :) e139
  have e141 : @Eq ((⟨Cert.KernelIdeal.S131072, .i32⟩ : BufTy).Contents (Elt F)) (Φ₁ (Proc.devRef .tc Cert.KernelIdeal.main_v612)) (Φ₂ (Proc.devRef .tc Cert.ReferenceIdeal.main_v615)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 47) rfl) :) e54 e140
  have e142 : @Eq ((⟨Cert.KernelIdeal.S131072, .i32⟩ : BufTy).Contents (Elt F)) (Φ₁ (Proc.devRef .tc Cert.KernelIdeal.main_v613)) (Φ₂ (Proc.devRef .tc Cert.ReferenceIdeal.main_v616)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 48) rfl) :) e138 e141 e54
  have e143 : @Eq ((⟨Cert.KernelIdeal.S131072x1, .i32⟩ : BufTy).Contents (Elt F)) (Φ₁ (Proc.devRef .tc Cert.KernelIdeal.main_v614)) (Φ₂ (Proc.devRef .tc Cert.ReferenceIdeal.main_v617)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 49) rfl) :) e135
  have e144 : @Eq ((⟨Cert.KernelIdeal.S131072x1, .i32⟩ : BufTy).Contents (Elt F)) (Φ₁ (Proc.devRef .tc Cert.KernelIdeal.main_v615)) (Φ₂ (Proc.devRef .tc Cert.ReferenceIdeal.main_v618)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 50) rfl) :) e142
  have e145 : @Eq ((⟨Cert.KernelIdeal.S131072x2, .i32⟩ : BufTy).Contents (Elt F)) (Φ₁ (Proc.devRef .tc Cert.KernelIdeal.main_v616)) (Φ₂ (Proc.devRef .tc Cert.ReferenceIdeal.main_v619)) := by rw [eq2 (at_ fa8 (i := 70) rfl), eq2 (at_ fb2 (i := 51) rfl), e143, e144] <;> rfl
  have e146 : @Eq ((⟨Cert.KernelIdeal.S32x131072, .f32⟩ : BufTy).Contents (Elt F)) (Φ₁ (Proc.devRef .tc Cert.KernelIdeal.main_v617)) (Φ₂ (Proc.devRef .tc Cert.ReferenceIdeal.main_v620)) := by rw [eq2 (at_ fa8 (i := 71) rfl), eq2 (at_ fb2 (i := 52) rfl), x2, e145] <;> rfl
  have e147 : @Eq ((⟨Cert.KernelIdeal.S_, .f32⟩ : BufTy).Contents (Elt F)) (Φ₁ (Proc.devRef .tc Cert.KernelIdeal.main_cst_210)) (Φ₂ (Proc.devRef .tc Cert.ReferenceIdeal.main_cst_210)) := step0 (β := ((⟨Cert.KernelIdeal.S_, .f32⟩ : BufTy).Contents (Elt F))) (eq0 (at_ fa8 (i := 72) rfl) :) (eq0 (at_ fb2 (i := 53) rfl) :)
  have e148 : @Eq ((⟨Cert.KernelIdeal.S131072, .f32⟩ : BufTy).Contents (Elt F)) (Φ₁ (Proc.devRef .tc Cert.KernelIdeal.main_v618)) (Φ₂ (Proc.devRef .tc Cert.ReferenceIdeal.main_v621)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 54) rfl) :) e147
  have e149 : @Eq ((⟨Cert.KernelIdeal.S131072, .f32⟩ : BufTy).Contents (Elt F)) (Φ₁ (Proc.devRef .tc Cert.KernelIdeal.main_v619)) (Φ₂ (Proc.devRef .tc Cert.ReferenceIdeal.main_v622)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 55) rfl) :) e148 e33
  have e150 : @Eq ((⟨Cert.KernelIdeal.S1x131072, .f32⟩ : BufTy).Contents (Elt F)) (Φ₁ (Proc.devRef .tc Cert.KernelIdeal.main_v620)) (Φ₂ (Proc.devRef .tc Cert.ReferenceIdeal.main_v623)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 56) rfl) :) e149
  have e151 : @Eq ((⟨Cert.KernelIdeal.S32x131072, .f32⟩ : BufTy).Contents (Elt F)) (Φ₁ (Proc.devRef .tc Cert.KernelIdeal.main_v621)) (Φ₂ (Proc.devRef .tc Cert.ReferenceIdeal.main_v624)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 57) rfl) :) e150
  have e152 : @Eq ((⟨Cert.KernelIdeal.S32x131072, .f32⟩ : BufTy).Contents (Elt F)) (Φ₁ (Proc.devRef .tc Cert.KernelIdeal.main_v622)) (Φ₂ (Proc.devRef .tc Cert.ReferenceIdeal.main_v625)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 58) rfl) :) e92 e151
  have e153 : @Eq ((⟨Cert.KernelIdeal.S_, .f32⟩ : BufTy).Contents (Elt F)) (Φ₁ (Proc.devRef .tc Cert.KernelIdeal.main_cst_211)) (Φ₂ (Proc.devRef .tc Cert.ReferenceIdeal.main_cst_211)) := step0 (β := ((⟨Cert.KernelIdeal.S_, .f32⟩ : BufTy).Contents (Elt F))) (eq0 (at_ fa8 (i := 78) rfl) :) (eq0 (at_ fb2 (i := 59) rfl) :)
  have e154 : @Eq ((⟨Cert.KernelIdeal.S131072, .f32⟩ : BufTy).Contents (Elt F)) (Φ₁ (Proc.devRef .tc Cert.KernelIdeal.main_v623)) (Φ₂ (Proc.devRef .tc Cert.ReferenceIdeal.main_v626)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb3 (i := 0) rfl) :) e153
  have e155 : @Eq ((⟨Cert.KernelIdeal.S131072, .f32⟩ : BufTy).Contents (Elt F)) (Φ₁ (Proc.devRef .tc Cert.KernelIdeal.main_v624)) (Φ₂ (Proc.devRef .tc Cert.ReferenceIdeal.main_v627)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 1) rfl) :) e154 e34
  have e156 : @Eq ((⟨Cert.KernelIdeal.S1x131072, .f32⟩ : BufTy).Contents (Elt F)) (Φ₁ (Proc.devRef .tc Cert.KernelIdeal.main_v625)) (Φ₂ (Proc.devRef .tc Cert.ReferenceIdeal.main_v628)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 2) rfl) :) e155
  have e157 : @Eq ((⟨Cert.KernelIdeal.S32x131072, .f32⟩ : BufTy).Contents (Elt F)) (Φ₁ (Proc.devRef .tc Cert.KernelIdeal.main_v626)) (Φ₂ (Proc.devRef .tc Cert.ReferenceIdeal.main_v629)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 3) rfl) :) e156
  have e158 : @Eq ((⟨Cert.KernelIdeal.S32x131072, .f32⟩ : BufTy).Contents (Elt F)) (Φ₁ (Proc.devRef .tc Cert.KernelIdeal.main_v627)) (Φ₂ (Proc.devRef .tc Cert.ReferenceIdeal.main_v630)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 4) rfl) :) e152 e157
  have e159 : @Eq ((⟨Cert.KernelIdeal.S1x131072, .f32⟩ : BufTy).Contents (Elt F)) (Φ₁ (Proc.devRef .tc Cert.KernelIdeal.main_v628)) (Φ₂ (Proc.devRef .tc Cert.ReferenceIdeal.main_v631)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 5) rfl) :) e33
  have e160 : @Eq ((⟨Cert.KernelIdeal.S32x131072, .f32⟩ : BufTy).Contents (Elt F)) (Φ₁ (Proc.devRef .tc Cert.KernelIdeal.main_v629)) (Φ₂ (Proc.devRef .tc Cert.ReferenceIdeal.main_v632)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 6) rfl) :) e159
  have e161 : @Eq ((⟨Cert.KernelIdeal.S32x131072, .f32⟩ : BufTy).Contents (Elt F)) (Φ₁ (Proc.devRef .tc Cert.KernelIdeal.main_v630)) (Φ₂ (Proc.devRef .tc Cert.ReferenceIdeal.main_v633)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 7) rfl) :) e110 e160
  have e162 : @Eq ((⟨Cert.KernelIdeal.S_, .f32⟩ : BufTy).Contents (Elt F)) (Φ₁ (Proc.devRef .tc Cert.KernelIdeal.main_cst_212)) (Φ₂ (Proc.devRef .tc Cert.ReferenceIdeal.main_cst_212)) := step0 (β := ((⟨Cert.KernelIdeal.S_, .f32⟩ : BufTy).Contents (Elt F))) (eq0 (at_ fa8 (i := 87) rfl) :) (eq0 (at_ fb3 (i := 8) rfl) :)
  have e163 : @Eq ((⟨Cert.KernelIdeal.S131072, .f32⟩ : BufTy).Contents (Elt F)) (Φ₁ (Proc.devRef .tc Cert.KernelIdeal.main_v631)) (Φ₂ (Proc.devRef .tc Cert.ReferenceIdeal.main_v634)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 9) rfl) :) e162
  have e164 : @Eq ((⟨Cert.KernelIdeal.S131072, .f32⟩ : BufTy).Contents (Elt F)) (Φ₁ (Proc.devRef .tc Cert.KernelIdeal.main_v632)) (Φ₂ (Proc.devRef .tc Cert.ReferenceIdeal.main_v635)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 10) rfl) :) e163 e34
  have e165 : @Eq ((⟨Cert.KernelIdeal.S1x131072, .f32⟩ : BufTy).Contents (Elt F)) (Φ₁ (Proc.devRef .tc Cert.KernelIdeal.main_v633)) (Φ₂ (Proc.devRef .tc Cert.ReferenceIdeal.main_v636)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 11) rfl) :) e164
  have e166 : @Eq ((⟨Cert.KernelIdeal.S32x131072, .f32⟩ : BufTy).Contents (Elt F)) (Φ₁ (Proc.devRef .tc Cert.KernelIdeal.main_v634)) (Φ₂ (Proc.devRef .tc Cert.ReferenceIdeal.main_v637)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 12) rfl) :) e165
  have e167 : @Eq ((⟨Cert.KernelIdeal.S32x131072, .f32⟩ : BufTy).Contents (Elt F)) (Φ₁ (Proc.devRef .tc Cert.KernelIdeal.main_v635)) (Φ₂ (Proc.devRef .tc Cert.ReferenceIdeal.main_v638)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 13) rfl) :) e161 e166
  have e168 : @Eq ((⟨Cert.KernelIdeal.S32x131072, .f32⟩ : BufTy).Contents (Elt F)) (Φ₁ (Proc.devRef .tc Cert.KernelIdeal.main_v636)) (Φ₂ (Proc.devRef .tc Cert.ReferenceIdeal.main_v639)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 14) rfl) :) e158 e167
  have e169 : @Eq ((⟨Cert.KernelIdeal.S_, .f32⟩ : BufTy).Contents (Elt F)) (Φ₁ (Proc.devRef .tc Cert.KernelIdeal.main_cst_213)) (Φ₂ (Proc.devRef .tc Cert.ReferenceIdeal.main_cst_213)) := step0 (β := ((⟨Cert.KernelIdeal.S_, .f32⟩ : BufTy).Contents (Elt F))) (eq0 (at_ fa8 (i := 94) rfl) :) (eq0 (at_ fb3 (i := 15) rfl) :)
  have e170 : @Eq ((⟨Cert.KernelIdeal.S131072, .f32⟩ : BufTy).Contents (Elt F)) (Φ₁ (Proc.devRef .tc Cert.KernelIdeal.main_v637)) (Φ₂ (Proc.devRef .tc Cert.ReferenceIdeal.main_v640)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 16) rfl) :) e169
  have e171 : @Eq ((⟨Cert.KernelIdeal.S131072, .f32⟩ : BufTy).Contents (Elt F)) (Φ₁ (Proc.devRef .tc Cert.KernelIdeal.main_v638)) (Φ₂ (Proc.devRef .tc Cert.ReferenceIdeal.main_v641)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 17) rfl) :) e170 e33
  have e172 : @Eq ((⟨Cert.KernelIdeal.S1x131072, .f32⟩ : BufTy).Contents (Elt F)) (Φ₁ (Proc.devRef .tc Cert.KernelIdeal.main_v639)) (Φ₂ (Proc.devRef .tc Cert.ReferenceIdeal.main_v642)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 18) rfl) :) e171
  have e173 : @Eq ((⟨Cert.KernelIdeal.S32x131072, .f32⟩ : BufTy).Contents (Elt F)) (Φ₁ (Proc.devRef .tc Cert.KernelIdeal.main_v640)) (Φ₂ (Proc.devRef .tc Cert.ReferenceIdeal.main_v643)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 19) rfl) :) e172
  have e174 : @Eq ((⟨Cert.KernelIdeal.S32x131072, .f32⟩ : BufTy).Contents (Elt F)) (Φ₁ (Proc.devRef .tc Cert.KernelIdeal.main_v641)) (Φ₂ (Proc.devRef .tc Cert.ReferenceIdeal.main_v644)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 20) rfl) :) e128 e173
  have e175 : @Eq ((⟨Cert.KernelIdeal.S1x131072, .f32⟩ : BufTy).Contents (Elt F)) (Φ₁ (Proc.devRef .tc Cert.KernelIdeal.main_v642)) (Φ₂ (Proc.devRef .tc Cert.ReferenceIdeal.main_v645)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 21) rfl) :) e34
  have e176 : @Eq ((⟨Cert.KernelIdeal.S32x131072, .f32⟩ : BufTy).Contents (Elt F)) (Φ₁ (Proc.devRef .tc Cert.KernelIdeal.main_v643)) (Φ₂ (Proc.devRef .tc Cert.ReferenceIdeal.main_v646)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 22) rfl) :) e175
  have e177 : @Eq ((⟨Cert.KernelIdeal.S32x131072, .f32⟩ : BufTy).Contents (Elt F)) (Φ₁ (Proc.devRef .tc Cert.KernelIdeal.main_v644)) (Φ₂ (Proc.devRef .tc Cert.ReferenceIdeal.main_v647)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 23) rfl) :) e174 e176
  have e178 : @Eq ((⟨Cert.KernelIdeal.S32x131072, .f32⟩ : BufTy).Contents (Elt F)) (Φ₁ (Proc.devRef .tc Cert.KernelIdeal.main_v645)) (Φ₂ (Proc.devRef .tc Cert.ReferenceIdeal.main_v648)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 24) rfl) :) e168 e177
  have e179 : @Eq ((⟨Cert.KernelIdeal.S1x131072, .f32⟩ : BufTy).Contents (Elt F)) (Φ₁ (Proc.devRef .tc Cert.KernelIdeal.main_v646)) (Φ₂ (Proc.devRef .tc Cert.ReferenceIdeal.main_v649)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 25) rfl) :) e33
  have e180 : @Eq ((⟨Cert.KernelIdeal.S32x131072, .f32⟩ : BufTy).Contents (Elt F)) (Φ₁ (Proc.devRef .tc Cert.KernelIdeal.main_v647)) (Φ₂ (Proc.devRef .tc Cert.ReferenceIdeal.main_v650)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 26) rfl) :) e179
  have e181 : @Eq ((⟨Cert.KernelIdeal.S32x131072, .f32⟩ : BufTy).Contents (Elt F)) (Φ₁ (Proc.devRef .tc Cert.KernelIdeal.main_v648)) (Φ₂ (Proc.devRef .tc Cert.ReferenceIdeal.main_v651)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 27) rfl) :) e146 e180
  have e182 : @Eq ((⟨Cert.KernelIdeal.S1x131072, .f32⟩ : BufTy).Contents (Elt F)) (Φ₁ (Proc.devRef .tc Cert.KernelIdeal.main_v649)) (Φ₂ (Proc.devRef .tc Cert.ReferenceIdeal.main_v652)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 28) rfl) :) e34
  have e183 : @Eq ((⟨Cert.KernelIdeal.S32x131072, .f32⟩ : BufTy).Contents (Elt F)) (Φ₁ (Proc.devRef .tc Cert.KernelIdeal.main_v650)) (Φ₂ (Proc.devRef .tc Cert.ReferenceIdeal.main_v653)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 29) rfl) :) e182
  have e184 : @Eq ((⟨Cert.KernelIdeal.S32x131072, .f32⟩ : BufTy).Contents (Elt F)) (Φ₁ (Proc.devRef .tc Cert.KernelIdeal.main_v651)) (Φ₂ (Proc.devRef .tc Cert.ReferenceIdeal.main_v654)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 30) rfl) :) e181 e183
  have e185 : @Eq ((⟨Cert.KernelIdeal.S32x131072, .f32⟩ : BufTy).Contents (Elt F)) (Φ₁ (Proc.devRef .tc Cert.KernelIdeal.main_v652)) (Φ₂ (Proc.devRef .tc Cert.ReferenceIdeal.main_v655)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 31) rfl) :) e178 e184
  have e186 : @Eq ((⟨Cert.KernelIdeal.S131072x32, .f32⟩ : BufTy).Contents (Elt F)) (Φ₁ (Proc.devRef .tc Cert.KernelIdeal.main_v653)) (Φ₂ (Proc.devRef .tc Cert.ReferenceIdeal.main_v656)) := by rw [eq1 (at_ fa8 (i := 111) rfl), eq1 (at_ fb3 (i := 32) rfl), e185] <;> rfl
  exact e186

end Cert.Bridge

end
-- ==== Proof.RefOps2.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 16 of @main: 60 operations, writing buffers 1108 … 1167. -/
abbrev w16 : List (HloOp τ sig (Elt F)) :=
  [ StableHlo.ternary main_v715 main_v717 main_v689 main_v718 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v713 main_v719 (broadcastInDim S131072x1 ![0] bcast_S131072_S131072x1_0 : (⟨S131072, .i32⟩ : BufTy).Contents (Elt F) → (⟨S131072x1, .i32⟩ : BufTy).Contents (Elt F)),
    StableHlo.unary main_v718 main_v720 (broadcastInDim S131072x1 ![0] bcast_S131072_S131072x1_0 : (⟨S131072, .i32⟩ : BufTy).Contents (Elt F) → (⟨S131072x1, .i32⟩ : BufTy).Contents (Elt F)),
    StableHlo.binary main_v719 main_v720 main_v721 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg7 main_v721 main_v722 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_240 (constantI S_ 32 0#32),
    StableHlo.unary main_c_240 main_v723 (broadcastInDim S131072 ![] bcast_S_S131072 : (⟨S_, .i32⟩ : BufTy).Contents (Elt F) → (⟨S131072, .i32⟩ : BufTy).Contents (Elt F)),
    StableHlo.binary main_v694 main_v723 main_v724 (cmpi .slt : (⟨S131072, .i32⟩ : BufTy).Contents (Elt F) → (⟨S131072, .i32⟩ : BufTy).Contents (Elt F) → (⟨S131072, .i1⟩ : BufTy).Contents (Elt F)),
    StableHlo.nullary main_c_241 (constantI S_ 32 150#32),
    StableHlo.unary main_c_241 main_v725 (broadcastInDim S131072 ![] bcast_S_S131072 : (⟨S_, .i32⟩ : BufTy).Contents (Elt F) → (⟨S131072, .i32⟩ : BufTy).Contents (Elt F)),
    StableHlo.binary main_v694 main_v725 main_v726 (addi : (⟨S131072, .i32⟩ : BufTy).Contents (Elt F) → (⟨S131072, .i32⟩ : BufTy).Contents (Elt F) → (⟨S131072, .i32⟩ : BufTy).Contents (Elt F)),
    StableHlo.ternary main_v724 main_v726 main_v694 main_v727 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_242 (constantI S_ 32 0#32),
    StableHlo.unary main_c_242 main_v728 (broadcastInDim S131072 ![] bcast_S_S131072 : (⟨S_, .i32⟩ : BufTy).Contents (Elt F) → (⟨S131072, .i32⟩ : BufTy).Contents (Elt F)),
    StableHlo.binary main_v686 main_v728 main_v729 (cmpi .slt : (⟨S131072, .i32⟩ : BufTy).Contents (Elt F) → (⟨S131072, .i32⟩ : BufTy).Contents (Elt F) → (⟨S131072, .i1⟩ : BufTy).Contents (Elt F)),
    StableHlo.nullary main_c_243 (constantI S_ 32 64#32),
    StableHlo.unary main_c_243 main_v730 (broadcastInDim S131072 ![] bcast_S_S131072 : (⟨S_, .i32⟩ : BufTy).Contents (Elt F) → (⟨S131072, .i32⟩ : BufTy).Contents (Elt F)),
    StableHlo.binary main_v686 main_v730 main_v731 (addi : (⟨S131072, .i32⟩ : BufTy).Contents (Elt F) → (⟨S131072, .i32⟩ : BufTy).Contents (Elt F) → (⟨S131072, .i32⟩ : BufTy).Contents (Elt F)),
    StableHlo.ternary main_v729 main_v731 main_v686 main_v732 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v727 main_v733 (broadcastInDim S131072x1 ![0] bcast_S131072_S131072x1_0 : (⟨S131072, .i32⟩ : BufTy).Contents (Elt F) → (⟨S131072x1, .i32⟩ : BufTy).Contents (Elt F)),
    StableHlo.unary main_v732 main_v734 (broadcastInDim S131072x1 ![0] bcast_S131072_S131072x1_0 : (⟨S131072, .i32⟩ : BufTy).Contents (Elt F) → (⟨S131072x1, .i32⟩ : BufTy).Contents (Elt F)),
    StableHlo.binary main_v733 main_v734 main_v735 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg7 main_v735 main_v736 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_c_244 (constantI S_ 32 0#32),
    StableHlo.unary main_c_244 main_v737 (broadcastInDim S131072 ![] bcast_S_S131072 : (⟨S_, .i32⟩ : BufTy).Contents (Elt F) → (⟨S131072, .i32⟩ : BufTy).Contents (Elt F)),
    StableHlo.binary main_v694 main_v737 main_v738 (cmpi .slt : (⟨S131072, .i32⟩ : BufTy).Contents (Elt F) → (⟨S131072, .i32⟩ : BufTy).Contents (Elt F) → (⟨S131072, .i1⟩ : BufTy).Contents (Elt F)),
    StableHlo.nullary main_c_245 (constantI S_ 32 150#32),
    StableHlo.unary main_c_245 main_v739 (broadcastInDim S131072 ![] bcast_S_S131072 : (⟨S_, .i32⟩ : BufTy).Contents (Elt F) → (⟨S131072, .i32⟩ : BufTy).Contents (Elt F)),
    StableHlo.binary main_v694 main_v739 main_v740 (addi : (⟨S131072, .i32⟩ : BufTy).Contents (Elt F) → (⟨S131072, .i32⟩ : BufTy).Contents (Elt F) → (⟨S131072, .i32⟩ : BufTy).Contents (Elt F)),
    StableHlo.ternary main_v738 main_v740 main_v694 main_v741 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_246 (constantI S_ 32 0#32),
    StableHlo.unary main_c_246 main_v742 (broadcastInDim S131072 ![] bcast_S_S131072 : (⟨S_, .i32⟩ : BufTy).Contents (Elt F) → (⟨S131072, .i32⟩ : BufTy).Contents (Elt F)),
    StableHlo.binary main_v689 main_v742 main_v743 (cmpi .slt : (⟨S131072, .i32⟩ : BufTy).Contents (Elt F) → (⟨S131072, .i32⟩ : BufTy).Contents (Elt F) → (⟨S131072, .i1⟩ : BufTy).Contents (Elt F)),
    StableHlo.nullary main_c_247 (constantI S_ 32 64#32),
    StableHlo.unary main_c_247 main_v744 (broadcastInDim S131072 ![] bcast_S_S131072 : (⟨S_, .i32⟩ : BufTy).Contents (Elt F) → (⟨S131072, .i32⟩ : BufTy).Contents (Elt F)),
    StableHlo.binary main_v689 main_v744 main_v745 (addi : (⟨S131072, .i32⟩ : BufTy).Contents (Elt F) → (⟨S131072, .i32⟩ : BufTy).Contents (Elt F) → (⟨S131072, .i32⟩ : BufTy).Contents (Elt F)),
    StableHlo.ternary main_v743 main_v745 main_v689 main_v746 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v741 main_v747 (broadcastInDim S131072x1 ![0] bcast_S131072_S131072x1_0 : (⟨S131072, .i32⟩ : BufTy).Contents (Elt F) → (⟨S131072x1, .i32⟩ : BufTy).Contents (Elt F)),
    StableHlo.unary main_v746 main_v748 (broadcastInDim S131072x1 ![0] bcast_S131072_S131072x1_0 : (⟨S131072, .i32⟩ : BufTy).Contents (Elt F) → (⟨S131072x1, .i32⟩ : BufTy).Contents (Elt F)),
    StableHlo.binary main_v747 main_v748 main_v749 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg7 main_v749 main_v750 ((fun x i => Host.gather gather_S32x150x64_S131072x2_S32x131072_0_12_n_n_12_1_3211 x i) : (⟨S32x150x64, .f32⟩ : BufTy).Contents (Elt F) → (⟨S131072x2, .i32⟩ : BufTy).Contents (Elt F) → (⟨S32x131072, .f32⟩ : BufTy).Contents (Elt F)),
    StableHlo.nullary main_cst_248 (constant S_ .f32 0x3F800000#32),
    StableHlo.unary main_cst_248 main_v751 (broadcastInDim S131072 ![] bcast_S_S131072 : (⟨S_, .f32⟩ : BufTy).Contents (Elt F) → (⟨S131072, .f32⟩ : BufTy).Contents (Elt F)),
    StableHlo.binary main_v751 main_v683 main_v752 (subf : (⟨S131072, .f32⟩ : BufTy).Contents (Elt F) → (⟨S131072, .f32⟩ : BufTy).Contents (Elt F) → (⟨S131072, .f32⟩ : BufTy).Contents (Elt F)),
    StableHlo.unary main_v752 main_v753 (broadcastInDim S1x131072 ![1] bcast_S131072_S1x131072_1 : (⟨S131072, .f32⟩ : BufTy).Contents (Elt F) → (⟨S1x131072, .f32⟩ : BufTy).Contents (Elt F)),
    StableHlo.unary main_v753 main_v754 (broadcastInDim S32x131072 ![0, 1] bcast_S1x131072_S32x131072_0_1 : (⟨S1x131072, .f32⟩ : BufTy).Contents (Elt F) → (⟨S32x131072, .f32⟩ : BufTy).Contents (Elt F)),
    StableHlo.binary main_v708 main_v754 main_v755 (mulf : (⟨S32x131072, .f32⟩ : BufTy).Contents (Elt F) → (⟨S32x131072, .f32⟩ : BufTy).Contents (Elt F) → (⟨S32x131072, .f32⟩ : BufTy).Contents (Elt F)),
    StableHlo.nullary main_cst_249 (constant S_ .f32 0x3F800000#32),
    StableHlo.unary main_cst_249 main_v756 (broadcastInDim S131072 ![] bcast_S_S131072 : (⟨S_, .f32⟩ : BufTy).Contents (Elt F) → (⟨S131072, .f32⟩ : BufTy).Contents (Elt F)),
    StableHlo.binary main_v756 main_v684 main_v757 (subf : (⟨S131072, .f32⟩ : BufTy).Contents (Elt F) → (⟨S131072, .f32⟩ : BufTy).Contents (Elt F) → (⟨S131072, .f32⟩ : BufTy).Contents (Elt F)),
    StableHlo.unary main_v757 main_v758 (broadcastInDim S1x131072 ![1] bcast_S131072_S1x131072_1 : (⟨S131072, .f32⟩ : BufTy).Contents (Elt F) → (⟨S1x131072, .f32⟩ : BufTy).Contents (Elt F)),
    StableHlo.unary main_v758 main_v759 (broadcastInDim S32x131072 ![0, 1] bcast_S1x131072_S32x131072_0_1 : (⟨S1x131072, .f32⟩ : BufTy).Contents (Elt F) → (⟨S32x131072, .f32⟩ : BufTy).Contents (Elt F)),
    StableHlo.binary main_v755 main_v759 main_v760 (mulf : (⟨S32x131072, .f32⟩ : BufTy).Contents (Elt F) → (⟨S32x131072, .f32⟩ : BufTy).Contents (Elt F) → (⟨S32x131072, .f32⟩ : BufTy).Contents (Elt F)),
    StableHlo.unary main_v683 main_v761 (broadcastInDim S1x131072 ![1] bcast_S131072_S1x131072_1 : (⟨S131072, .f32⟩ : BufTy).Contents (Elt F) → (⟨S1x131072, .f32⟩ : BufTy).Contents (Elt F)),
    StableHlo.unary main_v761 main_v762 (broadcastInDim S32x131072 ![0, 1] bcast_S1x131072_S32x131072_0_1 : (⟨S1x131072, .f32⟩ : BufTy).Contents (Elt F) → (⟨S32x131072, .f32⟩ : BufTy).Contents (Elt F)),
    StableHlo.binary main_v722 main_v762 main_v763 (mulf : (⟨S32x131072, .f32⟩ : BufTy).Contents (Elt F) → (⟨S32x131072, .f32⟩ : BufTy).Contents (Elt F) → (⟨S32x131072, .f32⟩ : BufTy).Contents (Elt F)),
    StableHlo.nullary main_cst_250 (constant S_ .f32 0x3F800000#32),
    StableHlo.unary main_cst_250 main_v764 (broadcastInDim S131072 ![] bcast_S_S131072 : (⟨S_, .f32⟩ : BufTy).Contents (Elt F) → (⟨S131072, .f32⟩ : BufTy).Contents (Elt F)),
    StableHlo.binary main_v764 main_v684 main_v765 (subf : (⟨S131072, .f32⟩ : BufTy).Contents (Elt F) → (⟨S131072, .f32⟩ : BufTy).Contents (Elt F) → (⟨S131072, .f32⟩ : BufTy).Contents (Elt F)),
    StableHlo.unary main_v765 main_v766 (broadcastInDim S1x131072 ![1] bcast_S131072_S1x131072_1 : (⟨S131072, .f32⟩ : BufTy).Contents (Elt F) → (⟨S1x131072, .f32⟩ : BufTy).Contents (Elt F)) ]
theorem w16_eq (c : Dev nD) : main_part16 (F := F) c = seq w16 := rfl
theorem w16_sub : (w16 : List (HloOp τ sig (Elt F))).Forall fun op => op.bufs ⊆ tcRefs τ sig :=
  ⟨ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub ..⟩
theorem w16_fresh : (w16 : List (HloOp τ sig (Elt F))).Forall fun op => op.fresh = ∅ := by
  simp only [List.Forall]; repeat' constructor
set_option maxHeartbeats 4000000 in
theorem w16_chain : Chain 1108 (w16 : List (HloOp τ sig (Elt F))) :=
  Chain.cons (stepAt_ternary 1108 _ _ _ _ _ rfl (by decide) (by decide) (by decide)) <|
  Chain.cons (stepAt_unary 1109 _ _ _ rfl (by decide)) <|
  Chain.cons (stepAt_unary 1110 _ _ _ rfl (by decide)) <|
  Chain.cons (stepAt_binary 1111 _ _ _ _ rfl (by decide) (by decide)) <|
  Chain.cons (stepAt_binary 1112 _ _ _ _ rfl (by decide) (by decide)) <|
  Chain.cons (stepAt_nullary 1113 _ _ rfl) <|
  Chain.cons (stepAt_unary 1114 _ _ _ rfl (by decide)) <|
  Chain.cons (stepAt_binary 1115 _ _ _ _ rfl (by decide) (by decide)) <|
  Chain.cons (stepAt_nullary 1116 _ _ rfl) <|
  Chain.cons (stepAt_unary 1117 _ _ _ rfl (by decide)) <|
  Chain.cons (stepAt_binary 1118 _ _ _ _ rfl (by decide) (by decide)) <|
  Chain.cons (stepAt_ternary 1119 _ _ _ _ _ rfl (by decide) (by decide) (by decide)) <|
  Chain.cons (stepAt_nullary 1120 _ _ rfl) <|
  Chain.cons (stepAt_unary 1121 _ _ _ rfl (by decide)) <|
  Chain.cons (stepAt_binary 1122 _ _ _ _ rfl (by decide) (by decide)) <|
  Chain.cons (stepAt_nullary 1123 _ _ rfl) <|
  Chain.cons (stepAt_unary 1124 _ _ _ rfl (by decide)) <|
  Chain.cons (stepAt_binary 1125 _ _ _ _ rfl (by decide) (by decide)) <|
  Chain.cons (stepAt_ternary 1126 _ _ _ _ _ rfl (by decide) (by decide) (by decide)) <|
  Chain.cons (stepAt_unary 1127 _ _ _ rfl (by decide)) <|
  Chain.cons (stepAt_unary 1128 _ _ _ rfl (by decide)) <|
  Chain.cons (stepAt_binary 1129 _ _ _ _ rfl (by decide) (by decide)) <|
  Chain.cons (stepAt_binary 1130 _ _ _ _ rfl (by decide) (by decide)) <|
  Chain.cons (stepAt_nullary 1131 _ _ rfl) <|
  Chain.cons (stepAt_unary 1132 _ _ _ rfl (by decide)) <|
  Chain.cons (stepAt_binary 1133 _ _ _ _ rfl (by decide) (by decide)) <|
  Chain.cons (stepAt_nullary 1134 _ _ rfl) <|
  Chain.cons (stepAt_unary 1135 _ _ _ rfl (by decide)) <|
  Chain.cons (stepAt_binary 1136 _ _ _ _ rfl (by decide) (by decide)) <|
  Chain.cons (stepAt_ternary 1137 _ _ _ _ _ rfl (by decide) (by decide) (by decide)) <|
  Chain.cons (stepAt_nullary 1138 _ _ rfl) <|
  Chain.cons (stepAt_unary 1139 _ _ _ rfl (by decide)) <|
  Chain.cons (stepAt_binary 1140 _ _ _ _ rfl (by decide) (by decide)) <|
  Chain.cons (stepAt_nullary 1141 _ _ rfl) <|
  Chain.cons (stepAt_unary 1142 _ _ _ rfl (by decide)) <|
  Chain.cons (stepAt_binary 1143 _ _ _ _ rfl (by decide) (by decide)) <|
  Chain.cons (stepAt_ternary 1144 _ _ _ _ _ rfl (by decide) (by decide) (by decide)) <|
  Chain.cons (stepAt_unary 1145 _ _ _ rfl (by decide)) <|
  Chain.cons (stepAt_unary 1146 _ _ _ rfl (by decide)) <|
  Chain.cons (stepAt_binary 1147 _ _ _ _ rfl (by decide) (by decide)) <|
  Chain.cons (stepAt_binary 1148 _ _ _ _ rfl (by decide) (by decide)) <|
  Chain.cons (stepAt_nullary 1149 _ _ rfl) <|
  Chain.cons (stepAt_unary 1150 _ _ _ rfl (by decide)) <|
  Chain.cons (stepAt_binary 1151 _ _ _ _ rfl (by decide) (by decide)) <|
  Chain.cons (stepAt_unary 1152 _ _ _ rfl (by decide)) <|
  Chain.cons (stepAt_unary 1153 _ _ _ rfl (by decide)) <|
  Chain.cons (stepAt_binary 1154 _ _ _ _ rfl (by decide) (by decide)) <|
  Chain.cons (stepAt_nullary 1155 _ _ rfl) <|
  Chain.cons (stepAt_unary 1156 _ _ _ rfl (by decide)) <|
  Chain.cons (stepAt_binary 1157 _ _ _ _ rfl (by decide) (by decide)) <|
  Chain.cons (stepAt_unary 1158 _ _ _ rfl (by decide)) <|
  Chain.cons (stepAt_unary 1159 _ _ _ rfl (by decide)) <|
  Chain.cons (stepAt_binary 1160 _ _ _ _ rfl (by decide) (by decide)) <|
  Chain.cons (stepAt_unary 1161 _ _ _ rfl (by decide)) <|
  Chain.cons (stepAt_unary 1162 _ _ _ rfl (by decide)) <|
  Chain.cons (stepAt_binary 1163 _ _ _ _ rfl (by decide) (by decide)) <|
  Chain.cons (stepAt_nullary 1164 _ _ rfl) <|
  Chain.cons (stepAt_unary 1165 _ _ _ rfl (by decide)) <|
  Chain.cons (stepAt_binary 1166 _ _ _ _ rfl (by decide) (by decide)) <|
  Chain.cons (stepAt_unary 1167 _ _ _ rfl (by decide)) <|
  Chain.nil
theorem w16_length : (w16 : List (HloOp τ sig (Elt F))).length = 60 := rfl

/-- Window 17 of @main: 60 operations, writing buffers 1168 … 1227. -/
abbrev w17 : List (HloOp τ sig (Elt F)) :=
  [ StableHlo.unary main_v766 main_v767 (broadcastInDim S32x131072 ![0, 1] bcast_S1x131072_S32x131072_0_1 : (⟨S1x131072, .f32⟩ : BufTy).Contents (Elt F) → (⟨S32x131072, .f32⟩ : BufTy).Contents (Elt F)),
    StableHlo.binary main_v763 main_v767 main_v768 (mulf : (⟨S32x131072, .f32⟩ : BufTy).Contents (Elt F) → (⟨S32x131072, .f32⟩ : BufTy).Contents (Elt F) → (⟨S32x131072, .f32⟩ : BufTy).Contents (Elt F)),
    StableHlo.binary main_v760 main_v768 main_v769 (addf : (⟨S32x131072, .f32⟩ : BufTy).Contents (Elt F) → (⟨S32x131072, .f32⟩ : BufTy).Contents (Elt F) → (⟨S32x131072, .f32⟩ : BufTy).Contents (Elt F)),
    StableHlo.nullary main_cst_251 (constant S_ .f32 0x3F800000#32),
    StableHlo.unary main_cst_251 main_v770 (broadcastInDim S131072 ![] bcast_S_S131072 : (⟨S_, .f32⟩ : BufTy).Contents (Elt F) → (⟨S131072, .f32⟩ : BufTy).Contents (Elt F)),
    StableHlo.binary main_v770 main_v683 main_v771 (subf : (⟨S131072, .f32⟩ : BufTy).Contents (Elt F) → (⟨S131072, .f32⟩ : BufTy).Contents (Elt F) → (⟨S131072, .f32⟩ : BufTy).Contents (Elt F)),
    StableHlo.unary main_v771 main_v772 (broadcastInDim S1x131072 ![1] bcast_S131072_S1x131072_1 : (⟨S131072, .f32⟩ : BufTy).Contents (Elt F) → (⟨S1x131072, .f32⟩ : BufTy).Contents (Elt F)),
    StableHlo.unary main_v772 main_v773 (broadcastInDim S32x131072 ![0, 1] bcast_S1x131072_S32x131072_0_1 : (⟨S1x131072, .f32⟩ : BufTy).Contents (Elt F) → (⟨S32x131072, .f32⟩ : BufTy).Contents (Elt F)),
    StableHlo.binary main_v736 main_v773 main_v774 (mulf : (⟨S32x131072, .f32⟩ : BufTy).Contents (Elt F) → (⟨S32x131072, .f32⟩ : BufTy).Contents (Elt F) → (⟨S32x131072, .f32⟩ : BufTy).Contents (Elt F)),
    StableHlo.unary main_v684 main_v775 (broadcastInDim S1x131072 ![1] bcast_S131072_S1x131072_1 : (⟨S131072, .f32⟩ : BufTy).Contents (Elt F) → (⟨S1x131072, .f32⟩ : BufTy).Contents (Elt F)),
    StableHlo.unary main_v775 main_v776 (broadcastInDim S32x131072 ![0, 1] bcast_S1x131072_S32x131072_0_1 : (⟨S1x131072, .f32⟩ : BufTy).Contents (Elt F) → (⟨S32x131072, .f32⟩ : BufTy).Contents (Elt F)),
    StableHlo.binary main_v774 main_v776 main_v777 (mulf : (⟨S32x131072, .f32⟩ : BufTy).Contents (Elt F) → (⟨S32x131072, .f32⟩ : BufTy).Contents (Elt F) → (⟨S32x131072, .f32⟩ : BufTy).Contents (Elt F)),
    StableHlo.binary main_v769 main_v777 main_v778 (addf : (⟨S32x131072, .f32⟩ : BufTy).Contents (Elt F) → (⟨S32x131072, .f32⟩ : BufTy).Contents (Elt F) → (⟨S32x131072, .f32⟩ : BufTy).Contents (Elt F)),
    StableHlo.unary main_v683 main_v779 (broadcastInDim S1x131072 ![1] bcast_S131072_S1x131072_1 : (⟨S131072, .f32⟩ : BufTy).Contents (Elt F) → (⟨S1x131072, .f32⟩ : BufTy).Contents (Elt F)),
    StableHlo.unary main_v779 main_v780 (broadcastInDim S32x131072 ![0, 1] bcast_S1x131072_S32x131072_0_1 : (⟨S1x131072, .f32⟩ : BufTy).Contents (Elt F) → (⟨S32x131072, .f32⟩ : BufTy).Contents (Elt F)),
    StableHlo.binary main_v750 main_v780 main_v781 (mulf : (⟨S32x131072, .f32⟩ : BufTy).Contents (Elt F) → (⟨S32x131072, .f32⟩ : BufTy).Contents (Elt F) → (⟨S32x131072, .f32⟩ : BufTy).Contents (Elt F)),
    StableHlo.unary main_v684 main_v782 (broadcastInDim S1x131072 ![1] bcast_S131072_S1x131072_1 : (⟨S131072, .f32⟩ : BufTy).Contents (Elt F) → (⟨S1x131072, .f32⟩ : BufTy).Contents (Elt F)),
    StableHlo.unary main_v782 main_v783 (broadcastInDim S32x131072 ![0, 1] bcast_S1x131072_S32x131072_0_1 : (⟨S1x131072, .f32⟩ : BufTy).Contents (Elt F) → (⟨S32x131072, .f32⟩ : BufTy).Contents (Elt F)),
    StableHlo.binary main_v781 main_v783 main_v784 (mulf : (⟨S32x131072, .f32⟩ : BufTy).Contents (Elt F) → (⟨S32x131072, .f32⟩ : BufTy).Contents (Elt F) → (⟨S32x131072, .f32⟩ : BufTy).Contents (Elt F)),
    StableHlo.binary main_v778 main_v784 main_v785 (addf : (⟨S32x131072, .f32⟩ : BufTy).Contents (Elt F) → (⟨S32x131072, .f32⟩ : BufTy).Contents (Elt F) → (⟨S32x131072, .f32⟩ : BufTy).Contents (Elt F)),
    StableHlo.unary main_v785 main_v786 ((transpose S131072x32 [1, 0] · transposes_S32x131072_S131072x32_1_0) : (⟨S32x131072, .f32⟩ : BufTy).Contents (Elt F) → (⟨S131072x32, .f32⟩ : BufTy).Contents (Elt F)),
    StableHlo.binary main_v657 main_v786 main_v787 (mulf : (⟨S131072x32, .f32⟩ : BufTy).Contents (Elt F) → (⟨S131072x32, .f32⟩ : BufTy).Contents (Elt F) → (⟨S131072x32, .f32⟩ : BufTy).Contents (Elt F)),
    StableHlo.nullary main_c_252 (constantI S_ 32 0#32),
    StableHlo.unary main_c_252 main_v788 (broadcastInDim S2 ![] bcast_S_S2 : (⟨S_, .i32⟩ : BufTy).Contents (Elt F) → (⟨S2, .i32⟩ : BufTy).Contents (Elt F)),
    StableHlo.binary main_c_5 main_v788 main_v789 (cmpi .slt : (⟨S2, .i32⟩ : BufTy).Contents (Elt F) → (⟨S2, .i32⟩ : BufTy).Contents (Elt F) → (⟨S2, .i1⟩ : BufTy).Contents (Elt F)),
    StableHlo.nullary main_c_253 (constantI S_ 32 4#32),
    StableHlo.unary main_c_253 main_v790 (broadcastInDim S2 ![] bcast_S_S2 : (⟨S_, .i32⟩ : BufTy).Contents (Elt F) → (⟨S2, .i32⟩ : BufTy).Contents (Elt F)),
    StableHlo.binary main_c_5 main_v790 main_v791 (addi : (⟨S2, .i32⟩ : BufTy).Contents (Elt F) → (⟨S2, .i32⟩ : BufTy).Contents (Elt F) → (⟨S2, .i32⟩ : BufTy).Contents (Elt F)),
    StableHlo.ternary main_v789 main_v791 main_c_5 main_v792 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v792 main_v793 (broadcastInDim S2x1 ![0] bcast_S2_S2x1_0 : (⟨S2, .i32⟩ : BufTy).Contents (Elt F) → (⟨S2x1, .i32⟩ : BufTy).Contents (Elt F)),
    StableHlo.binary main_v8 main_v793 main_v794 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v794 main_v795 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v795 main_v796 rfl shapeCasts_S131072x1_S131072,
    StableHlo.nullary main_cst_254 (constant S_ .f32 0x3F800000#32),
    StableHlo.unary main_cst_254 main_v797 (broadcastInDim S131072 ![] bcast_S_S131072 : (⟨S_, .f32⟩ : BufTy).Contents (Elt F) → (⟨S131072, .f32⟩ : BufTy).Contents (Elt F)),
    StableHlo.binary main_v796 main_v797 main_v798 (addf : (⟨S131072, .f32⟩ : BufTy).Contents (Elt F) → (⟨S131072, .f32⟩ : BufTy).Contents (Elt F) → (⟨S131072, .f32⟩ : BufTy).Contents (Elt F)),
    StableHlo.nullary main_cst_255 (constant S_ .f32 0x3F000000#32),
    StableHlo.unary main_cst_255 main_v799 (broadcastInDim S131072 ![] bcast_S_S131072 : (⟨S_, .f32⟩ : BufTy).Contents (Elt F) → (⟨S131072, .f32⟩ : BufTy).Contents (Elt F)),
    StableHlo.binary main_v798 main_v799 main_v800 (mulf : (⟨S131072, .f32⟩ : BufTy).Contents (Elt F) → (⟨S131072, .f32⟩ : BufTy).Contents (Elt F) → (⟨S131072, .f32⟩ : BufTy).Contents (Elt F)),
    StableHlo.nullary main_cst_256 (constant S_ .f32 0x42FE0000#32),
    StableHlo.unary main_cst_256 main_v801 (broadcastInDim S131072 ![] bcast_S_S131072 : (⟨S_, .f32⟩ : BufTy).Contents (Elt F) → (⟨S131072, .f32⟩ : BufTy).Contents (Elt F)),
    StableHlo.binary main_v800 main_v801 main_v802 (mulf : (⟨S131072, .f32⟩ : BufTy).Contents (Elt F) → (⟨S131072, .f32⟩ : BufTy).Contents (Elt F) → (⟨S131072, .f32⟩ : BufTy).Contents (Elt F)),
    StableHlo.unary main_v794 main_v803 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v803 main_v804 rfl shapeCasts_S131072x1_S131072,
    StableHlo.nullary main_cst_257 (constant S_ .f32 0x3F800000#32),
    StableHlo.unary main_cst_257 main_v805 (broadcastInDim S131072 ![] bcast_S_S131072 : (⟨S_, .f32⟩ : BufTy).Contents (Elt F) → (⟨S131072, .f32⟩ : BufTy).Contents (Elt F)),
    StableHlo.binary main_v804 main_v805 main_v806 (addf : (⟨S131072, .f32⟩ : BufTy).Contents (Elt F) → (⟨S131072, .f32⟩ : BufTy).Contents (Elt F) → (⟨S131072, .f32⟩ : BufTy).Contents (Elt F)),
    StableHlo.nullary main_cst_258 (constant S_ .f32 0x3F000000#32),
    StableHlo.unary main_cst_258 main_v807 (broadcastInDim S131072 ![] bcast_S_S131072 : (⟨S_, .f32⟩ : BufTy).Contents (Elt F) → (⟨S131072, .f32⟩ : BufTy).Contents (Elt F)),
    StableHlo.binary main_v806 main_v807 main_v808 (mulf : (⟨S131072, .f32⟩ : BufTy).Contents (Elt F) → (⟨S131072, .f32⟩ : BufTy).Contents (Elt F) → (⟨S131072, .f32⟩ : BufTy).Contents (Elt F)),
    StableHlo.nullary main_cst_259 (constant S_ .f32 0x42FE0000#32),
    StableHlo.unary main_cst_259 main_v809 (broadcastInDim S131072 ![] bcast_S_S131072 : (⟨S_, .f32⟩ : BufTy).Contents (Elt F) → (⟨S131072, .f32⟩ : BufTy).Contents (Elt F)),
    StableHlo.binary main_v808 main_v809 main_v810 (mulf : (⟨S131072, .f32⟩ : BufTy).Contents (Elt F) → (⟨S131072, .f32⟩ : BufTy).Contents (Elt F) → (⟨S131072, .f32⟩ : BufTy).Contents (Elt F)),
    StableHlo.unary main_v802 main_v811 (Host.floor : (⟨S131072, .f32⟩ : BufTy).Contents (Elt F) → (⟨S131072, .f32⟩ : BufTy).Contents (Elt F)),
    StableHlo.unary main_v810 main_v812 (Host.floor : (⟨S131072, .f32⟩ : BufTy).Contents (Elt F) → (⟨S131072, .f32⟩ : BufTy).Contents (Elt F)),
    StableHlo.binary main_v802 main_v811 main_v813 (subf : (⟨S131072, .f32⟩ : BufTy).Contents (Elt F) → (⟨S131072, .f32⟩ : BufTy).Contents (Elt F) → (⟨S131072, .f32⟩ : BufTy).Contents (Elt F)),
    StableHlo.binary main_v810 main_v812 main_v814 (subf : (⟨S131072, .f32⟩ : BufTy).Contents (Elt F) → (⟨S131072, .f32⟩ : BufTy).Contents (Elt F) → (⟨S131072, .f32⟩ : BufTy).Contents (Elt F)),
    StableHlo.unary main_v811 main_v815 (fptosi 32 : (⟨S131072, .f32⟩ : BufTy).Contents (Elt F) → (⟨S131072, .i32⟩ : BufTy).Contents (Elt F)),
    StableHlo.nullary main_c_260 (constantI S_ 32 0#32),
    StableHlo.nullary main_c_261 (constantI S_ 32 127#32) ]
theorem w17_eq (c : Dev nD) : main_part17 (F := F) c = seq w17 := rfl
theorem w17_sub : (w17 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub ..⟩
theorem w17_fresh : (w17 : List (HloOp τ sig (Elt F))).Forall fun op => op.fresh = ∅ := by
  simp only [List.Forall]; repeat' constructor
set_option maxHeartbeats 4000000 in
theorem w17_chain : Chain 1168 (w17 : List (HloOp τ sig (Elt F))) :=
  Chain.cons (stepAt_unary 1168 _ _ _ rfl (by decide)) <|
  Chain.cons (stepAt_binary 1169 _ _ _ _ rfl (by decide) (by decide)) <|
  Chain.cons (stepAt_binary 1170 _ _ _ _ rfl (by decide) (by decide)) <|
  Chain.cons (stepAt_nullary 1171 _ _ rfl) <|
  Chain.cons (stepAt_unary 1172 _ _ _ rfl (by decide)) <|
  Chain.cons (stepAt_binary 1173 _ _ _ _ rfl (by decide) (by decide)) <|
  Chain.cons (stepAt_unary 1174 _ _ _ rfl (by decide)) <|
  Chain.cons (stepAt_unary 1175 _ _ _ rfl (by decide)) <|
  Chain.cons (stepAt_binary 1176 _ _ _ _ rfl (by decide) (by decide)) <|
  Chain.cons (stepAt_unary 1177 _ _ _ rfl (by decide)) <|
  Chain.cons (stepAt_unary 1178 _ _ _ rfl (by decide)) <|
  Chain.cons (stepAt_binary 1179 _ _ _ _ rfl (by decide) (by decide)) <|
  Chain.cons (stepAt_binary 1180 _ _ _ _ rfl (by decide) (by decide)) <|
  Chain.cons (stepAt_unary 1181 _ _ _ rfl (by decide)) <|
  Chain.cons (stepAt_unary 1182 _ _ _ rfl (by decide)) <|
  Chain.cons (stepAt_binary 1183 _ _ _ _ rfl (by decide) (by decide)) <|
  Chain.cons (stepAt_unary 1184 _ _ _ rfl (by decide)) <|
  Chain.cons (stepAt_unary 1185 _ _ _ rfl (by decide)) <|
  Chain.cons (stepAt_binary 1186 _ _ _ _ rfl (by decide) (by decide)) <|
  Chain.cons (stepAt_binary 1187 _ _ _ _ rfl (by decide) (by decide)) <|
  Chain.cons (stepAt_unary 1188 _ _ _ rfl (by decide)) <|
  Chain.cons (stepAt_binary 1189 _ _ _ _ rfl (by decide) (by decide)) <|
  Chain.cons (stepAt_nullary 1190 _ _ rfl) <|
  Chain.cons (stepAt_unary 1191 _ _ _ rfl (by decide)) <|
  Chain.cons (stepAt_binary 1192 _ _ _ _ rfl (by decide) (by decide)) <|
  Chain.cons (stepAt_nullary 1193 _ _ rfl) <|
  Chain.cons (stepAt_unary 1194 _ _ _ rfl (by decide)) <|
  Chain.cons (stepAt_binary 1195 _ _ _ _ rfl (by decide) (by decide)) <|
  Chain.cons (stepAt_ternary 1196 _ _ _ _ _ rfl (by decide) (by decide) (by decide)) <|
  Chain.cons (stepAt_unary 1197 _ _ _ rfl (by decide)) <|
  Chain.cons (stepAt_binary 1198 _ _ _ _ rfl (by decide) (by decide)) <|
  Chain.cons (stepAt_unary 1199 _ _ _ rfl (by decide)) <|
  Chain.cons (stepAt_reshape 1200 _ _ _ _ rfl (by decide)) <|
  Chain.cons (stepAt_nullary 1201 _ _ rfl) <|
  Chain.cons (stepAt_unary 1202 _ _ _ rfl (by decide)) <|
  Chain.cons (stepAt_binary 1203 _ _ _ _ rfl (by decide) (by decide)) <|
  Chain.cons (stepAt_nullary 1204 _ _ rfl) <|
  Chain.cons (stepAt_unary 1205 _ _ _ rfl (by decide)) <|
  Chain.cons (stepAt_binary 1206 _ _ _ _ rfl (by decide) (by decide)) <|
  Chain.cons (stepAt_nullary 1207 _ _ rfl) <|
  Chain.cons (stepAt_unary 1208 _ _ _ rfl (by decide)) <|
  Chain.cons (stepAt_binary 1209 _ _ _ _ rfl (by decide) (by decide)) <|
  Chain.cons (stepAt_unary 1210 _ _ _ rfl (by decide)) <|
  Chain.cons (stepAt_reshape 1211 _ _ _ _ rfl (by decide)) <|
  Chain.cons (stepAt_nullary 1212 _ _ rfl) <|
  Chain.cons (stepAt_unary 1213 _ _ _ rfl (by decide)) <|
  Chain.cons (stepAt_binary 1214 _ _ _ _ rfl (by decide) (by decide)) <|
  Chain.cons (stepAt_nullary 1215 _ _ rfl) <|
  Chain.cons (stepAt_unary 1216 _ _ _ rfl (by decide)) <|
  Chain.cons (stepAt_binary 1217 _ _ _ _ rfl (by decide) (by decide)) <|
  Chain.cons (stepAt_nullary 1218 _ _ rfl) <|
  Chain.cons (stepAt_unary 1219 _ _ _ rfl (by decide)) <|
  Chain.cons (stepAt_binary 1220 _ _ _ _ rfl (by decide) (by decide)) <|
  Chain.cons (stepAt_unary 1221 _ _ _ rfl (by decide)) <|
  Chain.cons (stepAt_unary 1222 _ _ _ rfl (by decide)) <|
  Chain.cons (stepAt_binary 1223 _ _ _ _ rfl (by decide) (by decide)) <|
  Chain.cons (stepAt_binary 1224 _ _ _ _ rfl (by decide) (by decide)) <|
  Chain.cons (stepAt_unary 1225 _ _ _ rfl (by decide)) <|
  Chain.cons (stepAt_nullary 1226 _ _ rfl) <|
  Chain.cons (stepAt_nullary 1227 _ _ rfl) <|
  Chain.nil
theorem w17_length : (w17 : List (HloOp τ sig (Elt F))).length = 60 := rfl

/-- Window 18 of @main: 80 operations, writing buffers 1228 … 1307. -/
abbrev w18 : List (HloOp τ sig (Elt F)) :=
  [ StableHlo.TRef.unary (.of main_c_260) main_call24.v0 id,
    StableHlo.TRef.unary main_call24.v0 main_call24.v1 (broadcastInDim S131072 ![] bcast_S_S131072),
    StableHlo.TRef.binary main_call24.v1 (.of main_v815) main_call24.v2 maxsi,
    StableHlo.TRef.unary (.of main_c_261) main_call24.v3 id,
    StableHlo.TRef.unary main_call24.v3 main_call24.v4 (broadcastInDim S131072 ![] bcast_S_S131072),
    StableHlo.TRef.binary main_call24.v4 main_call24.v2 main_call24.v5 minsi,
    StableHlo.nullary main_c_262 (constantI S_ 32 1#32),
    StableHlo.unary main_c_262 main_v817 (broadcastInDim S131072 ![] bcast_S_S131072 : (⟨S_, .i32⟩ : BufTy).Contents (Elt F) → (⟨S131072, .i32⟩ : BufTy).Contents (Elt F)),
    StableHlo.binary main_v816 main_v817 main_v818 (addi : (⟨S131072, .i32⟩ : BufTy).Contents (Elt F) → (⟨S131072, .i32⟩ : BufTy).Contents (Elt F) → (⟨S131072, .i32⟩ : BufTy).Contents (Elt F)),
    StableHlo.nullary main_c_263 (constantI S_ 32 0#32),
    StableHlo.nullary main_c_264 (constantI S_ 32 127#32),
    StableHlo.TRef.unary (.of main_c_263) main_call25.v0 id,
    StableHlo.TRef.unary main_call25.v0 main_call25.v1 (broadcastInDim S131072 ![] bcast_S_S131072),
    StableHlo.TRef.binary main_call25.v1 (.of main_v818) main_call25.v2 maxsi,
    StableHlo.TRef.unary (.of main_c_264) main_call25.v3 id,
    StableHlo.TRef.unary main_call25.v3 main_call25.v4 (broadcastInDim S131072 ![] bcast_S_S131072),
    StableHlo.TRef.binary main_call25.v4 main_call25.v2 main_call25.v5 minsi,
    StableHlo.unary main_v812 main_v820 (fptosi 32 : (⟨S131072, .f32⟩ : BufTy).Contents (Elt F) → (⟨S131072, .i32⟩ : BufTy).Contents (Elt F)),
    StableHlo.nullary main_c_265 (constantI S_ 32 0#32),
    StableHlo.nullary main_c_266 (constantI S_ 32 127#32),
    StableHlo.TRef.unary (.of main_c_265) main_call26.v0 id,
    StableHlo.TRef.unary main_call26.v0 main_call26.v1 (broadcastInDim S131072 ![] bcast_S_S131072),
    StableHlo.TRef.binary main_call26.v1 (.of main_v820) main_call26.v2 maxsi,
    StableHlo.TRef.unary (.of main_c_266) main_call26.v3 id,
    StableHlo.TRef.unary main_call26.v3 main_call26.v4 (broadcastInDim S131072 ![] bcast_S_S131072),
    StableHlo.TRef.binary main_call26.v4 main_call26.v2 main_call26.v5 minsi,
    StableHlo.nullary main_c_267 (constantI S_ 32 1#32),
    StableHlo.unary main_c_267 main_v822 (broadcastInDim S131072 ![] bcast_S_S131072 : (⟨S_, .i32⟩ : BufTy).Contents (Elt F) → (⟨S131072, .i32⟩ : BufTy).Contents (Elt F)),
    StableHlo.binary main_v821 main_v822 main_v823 (addi : (⟨S131072, .i32⟩ : BufTy).Contents (Elt F) → (⟨S131072, .i32⟩ : BufTy).Contents (Elt F) → (⟨S131072, .i32⟩ : BufTy).Contents (Elt F)),
    StableHlo.nullary main_c_268 (constantI S_ 32 0#32),
    StableHlo.nullary main_c_269 (constantI S_ 32 127#32),
    StableHlo.TRef.unary (.of main_c_268) main_call27.v0 id,
    StableHlo.TRef.unary main_call27.v0 main_call27.v1 (broadcastInDim S131072 ![] bcast_S_S131072),
    StableHlo.TRef.binary main_call27.v1 (.of main_v823) main_call27.v2 maxsi,
    StableHlo.TRef.unary (.of main_c_269) main_call27.v3 id,
    StableHlo.TRef.unary main_call27.v3 main_call27.v4 (broadcastInDim S131072 ![] bcast_S_S131072),
    StableHlo.TRef.binary main_call27.v4 main_call27.v2 main_call27.v5 minsi,
    StableHlo.nullary main_c_270 (constantI S_ 32 0#32),
    StableHlo.unary main_c_270 main_v825 (broadcastInDim S131072 ![] bcast_S_S131072 : (⟨S_, .i32⟩ : BufTy).Contents (Elt F) → (⟨S131072, .i32⟩ : BufTy).Contents (Elt F)),
    StableHlo.binary main_v821 main_v825 main_v826 (cmpi .slt : (⟨S131072, .i32⟩ : BufTy).Contents (Elt F) → (⟨S131072, .i32⟩ : BufTy).Contents (Elt F) → (⟨S131072, .i1⟩ : BufTy).Contents (Elt F)),
    StableHlo.nullary main_c_271 (constantI S_ 32 128#32),
    StableHlo.unary main_c_271 main_v827 (broadcastInDim S131072 ![] bcast_S_S131072 : (⟨S_, .i32⟩ : BufTy).Contents (Elt F) → (⟨S131072, .i32⟩ : BufTy).Contents (Elt F)),
    StableHlo.binary main_v821 main_v827 main_v828 (addi : (⟨S131072, .i32⟩ : BufTy).Contents (Elt F) → (⟨S131072, .i32⟩ : BufTy).Contents (Elt F) → (⟨S131072, .i32⟩ : BufTy).Contents (Elt F)),
    StableHlo.ternary main_v826 main_v828 main_v821 main_v829 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_272 (constantI S_ 32 0#32),
    StableHlo.unary main_c_272 main_v830 (broadcastInDim S131072 ![] bcast_S_S131072 : (⟨S_, .i32⟩ : BufTy).Contents (Elt F) → (⟨S131072, .i32⟩ : BufTy).Contents (Elt F)),
    StableHlo.binary main_v816 main_v830 main_v831 (cmpi .slt : (⟨S131072, .i32⟩ : BufTy).Contents (Elt F) → (⟨S131072, .i32⟩ : BufTy).Contents (Elt F) → (⟨S131072, .i1⟩ : BufTy).Contents (Elt F)),
    StableHlo.nullary main_c_273 (constantI S_ 32 128#32),
    StableHlo.unary main_c_273 main_v832 (broadcastInDim S131072 ![] bcast_S_S131072 : (⟨S_, .i32⟩ : BufTy).Contents (Elt F) → (⟨S131072, .i32⟩ : BufTy).Contents (Elt F)),
    StableHlo.binary main_v816 main_v832 main_v833 (addi : (⟨S131072, .i32⟩ : BufTy).Contents (Elt F) → (⟨S131072, .i32⟩ : BufTy).Contents (Elt F) → (⟨S131072, .i32⟩ : BufTy).Contents (Elt F)),
    StableHlo.ternary main_v831 main_v833 main_v816 main_v834 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v829 main_v835 (broadcastInDim S131072x1 ![0] bcast_S131072_S131072x1_0 : (⟨S131072, .i32⟩ : BufTy).Contents (Elt F) → (⟨S131072x1, .i32⟩ : BufTy).Contents (Elt F)),
    StableHlo.unary main_v834 main_v836 (broadcastInDim S131072x1 ![0] bcast_S131072_S131072x1_0 : (⟨S131072, .i32⟩ : BufTy).Contents (Elt F) → (⟨S131072x1, .i32⟩ : BufTy).Contents (Elt F)),
    StableHlo.binary main_v835 main_v836 main_v837 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg8 main_v837 main_v838 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_274 (constantI S_ 32 0#32),
    StableHlo.unary main_c_274 main_v839 (broadcastInDim S131072 ![] bcast_S_S131072 : (⟨S_, .i32⟩ : BufTy).Contents (Elt F) → (⟨S131072, .i32⟩ : BufTy).Contents (Elt F)),
    StableHlo.binary main_v821 main_v839 main_v840 (cmpi .slt : (⟨S131072, .i32⟩ : BufTy).Contents (Elt F) → (⟨S131072, .i32⟩ : BufTy).Contents (Elt F) → (⟨S131072, .i1⟩ : BufTy).Contents (Elt F)),
    StableHlo.nullary main_c_275 (constantI S_ 32 128#32),
    StableHlo.unary main_c_275 main_v841 (broadcastInDim S131072 ![] bcast_S_S131072 : (⟨S_, .i32⟩ : BufTy).Contents (Elt F) → (⟨S131072, .i32⟩ : BufTy).Contents (Elt F)),
    StableHlo.binary main_v821 main_v841 main_v842 (addi : (⟨S131072, .i32⟩ : BufTy).Contents (Elt F) → (⟨S131072, .i32⟩ : BufTy).Contents (Elt F) → (⟨S131072, .i32⟩ : BufTy).Contents (Elt F)),
    StableHlo.ternary main_v840 main_v842 main_v821 main_v843 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_276 (constantI S_ 32 0#32),
    StableHlo.unary main_c_276 main_v844 (broadcastInDim S131072 ![] bcast_S_S131072 : (⟨S_, .i32⟩ : BufTy).Contents (Elt F) → (⟨S131072, .i32⟩ : BufTy).Contents (Elt F)),
    StableHlo.binary main_v819 main_v844 main_v845 (cmpi .slt : (⟨S131072, .i32⟩ : BufTy).Contents (Elt F) → (⟨S131072, .i32⟩ : BufTy).Contents (Elt F) → (⟨S131072, .i1⟩ : BufTy).Contents (Elt F)),
    StableHlo.nullary main_c_277 (constantI S_ 32 128#32),
    StableHlo.unary main_c_277 main_v846 (broadcastInDim S131072 ![] bcast_S_S131072 : (⟨S_, .i32⟩ : BufTy).Contents (Elt F) → (⟨S131072, .i32⟩ : BufTy).Contents (Elt F)),
    StableHlo.binary main_v819 main_v846 main_v847 (addi : (⟨S131072, .i32⟩ : BufTy).Contents (Elt F) → (⟨S131072, .i32⟩ : BufTy).Contents (Elt F) → (⟨S131072, .i32⟩ : BufTy).Contents (Elt F)),
    StableHlo.ternary main_v845 main_v847 main_v819 main_v848 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v843 main_v849 (broadcastInDim S131072x1 ![0] bcast_S131072_S131072x1_0 : (⟨S131072, .i32⟩ : BufTy).Contents (Elt F) → (⟨S131072x1, .i32⟩ : BufTy).Contents (Elt F)),
    StableHlo.unary main_v848 main_v850 (broadcastInDim S131072x1 ![0] bcast_S131072_S131072x1_0 : (⟨S131072, .i32⟩ : BufTy).Contents (Elt F) → (⟨S131072x1, .i32⟩ : BufTy).Contents (Elt F)),
    StableHlo.binary main_v849 main_v850 main_v851 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg8 main_v851 main_v852 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_278 (constantI S_ 32 0#32),
    StableHlo.unary main_c_278 main_v853 (broadcastInDim S131072 ![] bcast_S_S131072 : (⟨S_, .i32⟩ : BufTy).Contents (Elt F) → (⟨S131072, .i32⟩ : BufTy).Contents (Elt F)),
    StableHlo.binary main_v824 main_v853 main_v854 (cmpi .slt : (⟨S131072, .i32⟩ : BufTy).Contents (Elt F) → (⟨S131072, .i32⟩ : BufTy).Contents (Elt F) → (⟨S131072, .i1⟩ : BufTy).Contents (Elt F)),
    StableHlo.nullary main_c_279 (constantI S_ 32 128#32),
    StableHlo.unary main_c_279 main_v855 (broadcastInDim S131072 ![] bcast_S_S131072 : (⟨S_, .i32⟩ : BufTy).Contents (Elt F) → (⟨S131072, .i32⟩ : BufTy).Contents (Elt F)),
    StableHlo.binary main_v824 main_v855 main_v856 (addi : (⟨S131072, .i32⟩ : BufTy).Contents (Elt F) → (⟨S131072, .i32⟩ : BufTy).Contents (Elt F) → (⟨S131072, .i32⟩ : BufTy).Contents (Elt F)),
    StableHlo.ternary main_v854 main_v856 main_v824 main_v857 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]
theorem w18_eq (c : Dev nD) : main_part18 (F := F) c = seq w18 := rfl
theorem w18_sub : (w18 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
theorem w18_fresh : (w18 : List (HloOp τ sig (Elt F))).Forall fun op => op.fresh = ∅ := by
  simp only [List.Forall]; repeat' constructor
set_option maxHeartbeats 4000000 in
theorem w18_chain : Chain 1228 (w18 : List (HloOp τ sig (Elt F))) :=
  Chain.cons (stepAt_unary 1228 _ _ _ rfl (by decide)) <|
  Chain.cons (stepAt_unary 1229 _ _ _ rfl (by decide)) <|
  Chain.cons (stepAt_binary 1230 _ _ _ _ rfl (by decide) (by decide)) <|
  Chain.cons (stepAt_unary 1231 _ _ _ rfl (by decide)) <|
  Chain.cons (stepAt_unary 1232 _ _ _ rfl (by decide)) <|
  Chain.cons (stepAt_binary 1233 _ _ _ _ rfl (by decide) (by decide)) <|
  Chain.cons (stepAt_nullary 1234 _ _ rfl) <|
  Chain.cons (stepAt_unary 1235 _ _ _ rfl (by decide)) <|
  Chain.cons (stepAt_binary 1236 _ _ _ _ rfl (by decide) (by decide)) <|
  Chain.cons (stepAt_nullary 1237 _ _ rfl) <|
  Chain.cons (stepAt_nullary 1238 _ _ rfl) <|
  Chain.cons (stepAt_unary 1239 _ _ _ rfl (by decide)) <|
  Chain.cons (stepAt_unary 1240 _ _ _ rfl (by decide)) <|
  Chain.cons (stepAt_binary 1241 _ _ _ _ rfl (by decide) (by decide)) <|
  Chain.cons (stepAt_unary 1242 _ _ _ rfl (by decide)) <|
  Chain.cons (stepAt_unary 1243 _ _ _ rfl (by decide)) <|
  Chain.cons (stepAt_binary 1244 _ _ _ _ rfl (by decide) (by decide)) <|
  Chain.cons (stepAt_unary 1245 _ _ _ rfl (by decide)) <|
  Chain.cons (stepAt_nullary 1246 _ _ rfl) <|
  Chain.cons (stepAt_nullary 1247 _ _ rfl) <|
  Chain.cons (stepAt_unary 1248 _ _ _ rfl (by decide)) <|
  Chain.cons (stepAt_unary 1249 _ _ _ rfl (by decide)) <|
  Chain.cons (stepAt_binary 1250 _ _ _ _ rfl (by decide) (by decide)) <|
  Chain.cons (stepAt_unary 1251 _ _ _ rfl (by decide)) <|
  Chain.cons (stepAt_unary 1252 _ _ _ rfl (by decide)) <|
  Chain.cons (stepAt_binary 1253 _ _ _ _ rfl (by decide) (by decide)) <|
  Chain.cons (stepAt_nullary 1254 _ _ rfl) <|
  Chain.cons (stepAt_unary 1255 _ _ _ rfl (by decide)) <|
  Chain.cons (stepAt_binary 1256 _ _ _ _ rfl (by decide) (by decide)) <|
  Chain.cons (stepAt_nullary 1257 _ _ rfl) <|
  Chain.cons (stepAt_nullary 1258 _ _ rfl) <|
  Chain.cons (stepAt_unary 1259 _ _ _ rfl (by decide)) <|
  Chain.cons (stepAt_unary 1260 _ _ _ rfl (by decide)) <|
  Chain.cons (stepAt_binary 1261 _ _ _ _ rfl (by decide) (by decide)) <|
  Chain.cons (stepAt_unary 1262 _ _ _ rfl (by decide)) <|
  Chain.cons (stepAt_unary 1263 _ _ _ rfl (by decide)) <|
  Chain.cons (stepAt_binary 1264 _ _ _ _ rfl (by decide) (by decide)) <|
  Chain.cons (stepAt_nullary 1265 _ _ rfl) <|
  Chain.cons (stepAt_unary 1266 _ _ _ rfl (by decide)) <|
  Chain.cons (stepAt_binary 1267 _ _ _ _ rfl (by decide) (by decide)) <|
  Chain.cons (stepAt_nullary 1268 _ _ rfl) <|
  Chain.cons (stepAt_unary 1269 _ _ _ rfl (by decide)) <|
  Chain.cons (stepAt_binary 1270 _ _ _ _ rfl (by decide) (by decide)) <|
  Chain.cons (stepAt_ternary 1271 _ _ _ _ _ rfl (by decide) (by decide) (by decide)) <|
  Chain.cons (stepAt_nullary 1272 _ _ rfl) <|
  Chain.cons (stepAt_unary 1273 _ _ _ rfl (by decide)) <|
  Chain.cons (stepAt_binary 1274 _ _ _ _ rfl (by decide) (by decide)) <|
  Chain.cons (stepAt_nullary 1275 _ _ rfl) <|
  Chain.cons (stepAt_unary 1276 _ _ _ rfl (by decide)) <|
  Chain.cons (stepAt_binary 1277 _ _ _ _ rfl (by decide) (by decide)) <|
  Chain.cons (stepAt_ternary 1278 _ _ _ _ _ rfl (by decide) (by decide) (by decide)) <|
  Chain.cons (stepAt_unary 1279 _ _ _ rfl (by decide)) <|
  Chain.cons (stepAt_unary 1280 _ _ _ rfl (by decide)) <|
  Chain.cons (stepAt_binary 1281 _ _ _ _ rfl (by decide) (by decide)) <|
  Chain.cons (stepAt_binary 1282 _ _ _ _ rfl (by decide) (by decide)) <|
  Chain.cons (stepAt_nullary 1283 _ _ rfl) <|
  Chain.cons (stepAt_unary 1284 _ _ _ rfl (by decide)) <|
  Chain.cons (stepAt_binary 1285 _ _ _ _ rfl (by decide) (by decide)) <|
  Chain.cons (stepAt_nullary 1286 _ _ rfl) <|
  Chain.cons (stepAt_unary 1287 _ _ _ rfl (by decide)) <|
  Chain.cons (stepAt_binary 1288 _ _ _ _ rfl (by decide) (by decide)) <|
  Chain.cons (stepAt_ternary 1289 _ _ _ _ _ rfl (by decide) (by decide) (by decide)) <|
  Chain.cons (stepAt_nullary 1290 _ _ rfl) <|
  Chain.cons (stepAt_unary 1291 _ _ _ rfl (by decide)) <|
  Chain.cons (stepAt_binary 1292 _ _ _ _ rfl (by decide) (by decide)) <|
  Chain.cons (stepAt_nullary 1293 _ _ rfl) <|
  Chain.cons (stepAt_unary 1294 _ _ _ rfl (by decide)) <|
  Chain.cons (stepAt_binary 1295 _ _ _ _ rfl (by decide) (by decide)) <|
  Chain.cons (stepAt_ternary 1296 _ _ _ _ _ rfl (by decide) (by decide) (by decide)) <|
  Chain.cons (stepAt_unary 1297 _ _ _ rfl (by decide)) <|
  Chain.cons (stepAt_unary 1298 _ _ _ rfl (by decide)) <|
  Chain.cons (stepAt_binary 1299 _ _ _ _ rfl (by decide) (by decide)) <|
  Chain.cons (stepAt_binary 1300 _ _ _ _ rfl (by decide) (by decide)) <|
  Chain.cons (stepAt_nullary 1301 _ _ rfl) <|
  Chain.cons (stepAt_unary 1302 _ _ _ rfl (by decide)) <|
  Chain.cons (stepAt_binary 1303 _ _ _ _ rfl (by decide) (by decide)) <|
  Chain.cons (stepAt_nullary 1304 _ _ rfl) <|
  Chain.cons (stepAt_unary 1305 _ _ _ rfl (by decide)) <|
  Chain.cons (stepAt_binary 1306 _ _ _ _ rfl (by decide) (by decide)) <|
  Chain.cons (stepAt_ternary 1307 _ _ _ _ _ rfl (by decide) (by decide) (by decide)) <|
  Chain.nil
theorem w18_length : (w18 : List (HloOp τ sig (Elt F))).length = 80 := rfl

/-- Window 19 of @main: 60 operations, writing buffers 1308 … 1367. -/
abbrev w19 : List (HloOp τ sig (Elt F)) :=
  [ StableHlo.nullary main_c_280 (constantI S_ 32 0#32),
    StableHlo.unary main_c_280 main_v858 (broadcastInDim S131072 ![] bcast_S_S131072 : (⟨S_, .i32⟩ : BufTy).Contents (Elt F) → (⟨S131072, .i32⟩ : BufTy).Contents (Elt F)),
    StableHlo.binary main_v816 main_v858 main_v859 (cmpi .slt : (⟨S131072, .i32⟩ : BufTy).Contents (Elt F) → (⟨S131072, .i32⟩ : BufTy).Contents (Elt F) → (⟨S131072, .i1⟩ : BufTy).Contents (Elt F)),
    StableHlo.nullary main_c_281 (constantI S_ 32 128#32),
    StableHlo.unary main_c_281 main_v860 (broadcastInDim S131072 ![] bcast_S_S131072 : (⟨S_, .i32⟩ : BufTy).Contents (Elt F) → (⟨S131072, .i32⟩ : BufTy).Contents (Elt F)),
    StableHlo.binary main_v816 main_v860 main_v861 (addi : (⟨S131072, .i32⟩ : BufTy).Contents (Elt F) → (⟨S131072, .i32⟩ : BufTy).Contents (Elt F) → (⟨S131072, .i32⟩ : BufTy).Contents (Elt F)),
    StableHlo.ternary main_v859 main_v861 main_v816 main_v862 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v857 main_v863 (broadcastInDim S131072x1 ![0] bcast_S131072_S131072x1_0 : (⟨S131072, .i32⟩ : BufTy).Contents (Elt F) → (⟨S131072x1, .i32⟩ : BufTy).Contents (Elt F)),
    StableHlo.unary main_v862 main_v864 (broadcastInDim S131072x1 ![0] bcast_S131072_S131072x1_0 : (⟨S131072, .i32⟩ : BufTy).Contents (Elt F) → (⟨S131072x1, .i32⟩ : BufTy).Contents (Elt F)),
    StableHlo.binary main_v863 main_v864 main_v865 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg8 main_v865 main_v866 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_282 (constantI S_ 32 0#32),
    StableHlo.unary main_c_282 main_v867 (broadcastInDim S131072 ![] bcast_S_S131072 : (⟨S_, .i32⟩ : BufTy).Contents (Elt F) → (⟨S131072, .i32⟩ : BufTy).Contents (Elt F)),
    StableHlo.binary main_v824 main_v867 main_v868 (cmpi .slt : (⟨S131072, .i32⟩ : BufTy).Contents (Elt F) → (⟨S131072, .i32⟩ : BufTy).Contents (Elt F) → (⟨S131072, .i1⟩ : BufTy).Contents (Elt F)),
    StableHlo.nullary main_c_283 (constantI S_ 32 128#32),
    StableHlo.unary main_c_283 main_v869 (broadcastInDim S131072 ![] bcast_S_S131072 : (⟨S_, .i32⟩ : BufTy).Contents (Elt F) → (⟨S131072, .i32⟩ : BufTy).Contents (Elt F)),
    StableHlo.binary main_v824 main_v869 main_v870 (addi : (⟨S131072, .i32⟩ : BufTy).Contents (Elt F) → (⟨S131072, .i32⟩ : BufTy).Contents (Elt F) → (⟨S131072, .i32⟩ : BufTy).Contents (Elt F)),
    StableHlo.ternary main_v868 main_v870 main_v824 main_v871 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_284 (constantI S_ 32 0#32),
    StableHlo.unary main_c_284 main_v872 (broadcastInDim S131072 ![] bcast_S_S131072 : (⟨S_, .i32⟩ : BufTy).Contents (Elt F) → (⟨S131072, .i32⟩ : BufTy).Contents (Elt F)),
    StableHlo.binary main_v819 main_v872 main_v873 (cmpi .slt : (⟨S131072, .i32⟩ : BufTy).Contents (Elt F) → (⟨S131072, .i32⟩ : BufTy).Contents (Elt F) → (⟨S131072, .i1⟩ : BufTy).Contents (Elt F)),
    StableHlo.nullary main_c_285 (constantI S_ 32 128#32),
    StableHlo.unary main_c_285 main_v874 (broadcastInDim S131072 ![] bcast_S_S131072 : (⟨S_, .i32⟩ : BufTy).Contents (Elt F) → (⟨S131072, .i32⟩ : BufTy).Contents (Elt F)),
    StableHlo.binary main_v819 main_v874 main_v875 (addi : (⟨S131072, .i32⟩ : BufTy).Contents (Elt F) → (⟨S131072, .i32⟩ : BufTy).Contents (Elt F) → (⟨S131072, .i32⟩ : BufTy).Contents (Elt F)),
    StableHlo.ternary main_v873 main_v875 main_v819 main_v876 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v871 main_v877 (broadcastInDim S131072x1 ![0] bcast_S131072_S131072x1_0 : (⟨S131072, .i32⟩ : BufTy).Contents (Elt F) → (⟨S131072x1, .i32⟩ : BufTy).Contents (Elt F)),
    StableHlo.unary main_v876 main_v878 (broadcastInDim S131072x1 ![0] bcast_S131072_S131072x1_0 : (⟨S131072, .i32⟩ : BufTy).Contents (Elt F) → (⟨S131072x1, .i32⟩ : BufTy).Contents (Elt F)),
    StableHlo.binary main_v877 main_v878 main_v879 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg8 main_v879 main_v880 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_cst_286 (constant S_ .f32 0x3F800000#32),
    StableHlo.unary main_cst_286 main_v881 (broadcastInDim S131072 ![] bcast_S_S131072 : (⟨S_, .f32⟩ : BufTy).Contents (Elt F) → (⟨S131072, .f32⟩ : BufTy).Contents (Elt F)),
    StableHlo.binary main_v881 main_v813 main_v882 (subf : (⟨S131072, .f32⟩ : BufTy).Contents (Elt F) → (⟨S131072, .f32⟩ : BufTy).Contents (Elt F) → (⟨S131072, .f32⟩ : BufTy).Contents (Elt F)),
    StableHlo.unary main_v882 main_v883 (broadcastInDim S1x131072 ![1] bcast_S131072_S1x131072_1 : (⟨S131072, .f32⟩ : BufTy).Contents (Elt F) → (⟨S1x131072, .f32⟩ : BufTy).Contents (Elt F)),
    StableHlo.unary main_v883 main_v884 (broadcastInDim S32x131072 ![0, 1] bcast_S1x131072_S32x131072_0_1 : (⟨S1x131072, .f32⟩ : BufTy).Contents (Elt F) → (⟨S32x131072, .f32⟩ : BufTy).Contents (Elt F)),
    StableHlo.binary main_v838 main_v884 main_v885 (mulf : (⟨S32x131072, .f32⟩ : BufTy).Contents (Elt F) → (⟨S32x131072, .f32⟩ : BufTy).Contents (Elt F) → (⟨S32x131072, .f32⟩ : BufTy).Contents (Elt F)),
    StableHlo.nullary main_cst_287 (constant S_ .f32 0x3F800000#32),
    StableHlo.unary main_cst_287 main_v886 (broadcastInDim S131072 ![] bcast_S_S131072 : (⟨S_, .f32⟩ : BufTy).Contents (Elt F) → (⟨S131072, .f32⟩ : BufTy).Contents (Elt F)),
    StableHlo.binary main_v886 main_v814 main_v887 (subf : (⟨S131072, .f32⟩ : BufTy).Contents (Elt F) → (⟨S131072, .f32⟩ : BufTy).Contents (Elt F) → (⟨S131072, .f32⟩ : BufTy).Contents (Elt F)),
    StableHlo.unary main_v887 main_v888 (broadcastInDim S1x131072 ![1] bcast_S131072_S1x131072_1 : (⟨S131072, .f32⟩ : BufTy).Contents (Elt F) → (⟨S1x131072, .f32⟩ : BufTy).Contents (Elt F)),
    StableHlo.unary main_v888 main_v889 (broadcastInDim S32x131072 ![0, 1] bcast_S1x131072_S32x131072_0_1 : (⟨S1x131072, .f32⟩ : BufTy).Contents (Elt F) → (⟨S32x131072, .f32⟩ : BufTy).Contents (Elt F)),
    StableHlo.binary main_v885 main_v889 main_v890 (mulf : (⟨S32x131072, .f32⟩ : BufTy).Contents (Elt F) → (⟨S32x131072, .f32⟩ : BufTy).Contents (Elt F) → (⟨S32x131072, .f32⟩ : BufTy).Contents (Elt F)),
    StableHlo.unary main_v813 main_v891 (broadcastInDim S1x131072 ![1] bcast_S131072_S1x131072_1 : (⟨S131072, .f32⟩ : BufTy).Contents (Elt F) → (⟨S1x131072, .f32⟩ : BufTy).Contents (Elt F)),
    StableHlo.unary main_v891 main_v892 (broadcastInDim S32x131072 ![0, 1] bcast_S1x131072_S32x131072_0_1 : (⟨S1x131072, .f32⟩ : BufTy).Contents (Elt F) → (⟨S32x131072, .f32⟩ : BufTy).Contents (Elt F)),
    StableHlo.binary main_v852 main_v892 main_v893 (mulf : (⟨S32x131072, .f32⟩ : BufTy).Contents (Elt F) → (⟨S32x131072, .f32⟩ : BufTy).Contents (Elt F) → (⟨S32x131072, .f32⟩ : BufTy).Contents (Elt F)),
    StableHlo.nullary main_cst_288 (constant S_ .f32 0x3F800000#32),
    StableHlo.unary main_cst_288 main_v894 (broadcastInDim S131072 ![] bcast_S_S131072 : (⟨S_, .f32⟩ : BufTy).Contents (Elt F) → (⟨S131072, .f32⟩ : BufTy).Contents (Elt F)),
    StableHlo.binary main_v894 main_v814 main_v895 (subf : (⟨S131072, .f32⟩ : BufTy).Contents (Elt F) → (⟨S131072, .f32⟩ : BufTy).Contents (Elt F) → (⟨S131072, .f32⟩ : BufTy).Contents (Elt F)),
    StableHlo.unary main_v895 main_v896 (broadcastInDim S1x131072 ![1] bcast_S131072_S1x131072_1 : (⟨S131072, .f32⟩ : BufTy).Contents (Elt F) → (⟨S1x131072, .f32⟩ : BufTy).Contents (Elt F)),
    StableHlo.unary main_v896 main_v897 (broadcastInDim S32x131072 ![0, 1] bcast_S1x131072_S32x131072_0_1 : (⟨S1x131072, .f32⟩ : BufTy).Contents (Elt F) → (⟨S32x131072, .f32⟩ : BufTy).Contents (Elt F)),
    StableHlo.binary main_v893 main_v897 main_v898 (mulf : (⟨S32x131072, .f32⟩ : BufTy).Contents (Elt F) → (⟨S32x131072, .f32⟩ : BufTy).Contents (Elt F) → (⟨S32x131072, .f32⟩ : BufTy).Contents (Elt F)),
    StableHlo.binary main_v890 main_v898 main_v899 (addf : (⟨S32x131072, .f32⟩ : BufTy).Contents (Elt F) → (⟨S32x131072, .f32⟩ : BufTy).Contents (Elt F) → (⟨S32x131072, .f32⟩ : BufTy).Contents (Elt F)),
    StableHlo.nullary main_cst_289 (constant S_ .f32 0x3F800000#32),
    StableHlo.unary main_cst_289 main_v900 (broadcastInDim S131072 ![] bcast_S_S131072 : (⟨S_, .f32⟩ : BufTy).Contents (Elt F) → (⟨S131072, .f32⟩ : BufTy).Contents (Elt F)),
    StableHlo.binary main_v900 main_v813 main_v901 (subf : (⟨S131072, .f32⟩ : BufTy).Contents (Elt F) → (⟨S131072, .f32⟩ : BufTy).Contents (Elt F) → (⟨S131072, .f32⟩ : BufTy).Contents (Elt F)),
    StableHlo.unary main_v901 main_v902 (broadcastInDim S1x131072 ![1] bcast_S131072_S1x131072_1 : (⟨S131072, .f32⟩ : BufTy).Contents (Elt F) → (⟨S1x131072, .f32⟩ : BufTy).Contents (Elt F)),
    StableHlo.unary main_v902 main_v903 (broadcastInDim S32x131072 ![0, 1] bcast_S1x131072_S32x131072_0_1 : (⟨S1x131072, .f32⟩ : BufTy).Contents (Elt F) → (⟨S32x131072, .f32⟩ : BufTy).Contents (Elt F)),
    StableHlo.binary main_v866 main_v903 main_v904 (mulf : (⟨S32x131072, .f32⟩ : BufTy).Contents (Elt F) → (⟨S32x131072, .f32⟩ : BufTy).Contents (Elt F) → (⟨S32x131072, .f32⟩ : BufTy).Contents (Elt F)),
    StableHlo.unary main_v814 main_v905 (broadcastInDim S1x131072 ![1] bcast_S131072_S1x131072_1 : (⟨S131072, .f32⟩ : BufTy).Contents (Elt F) → (⟨S1x131072, .f32⟩ : BufTy).Contents (Elt F)),
    StableHlo.unary main_v905 main_v906 (broadcastInDim S32x131072 ![0, 1] bcast_S1x131072_S32x131072_0_1 : (⟨S1x131072, .f32⟩ : BufTy).Contents (Elt F) → (⟨S32x131072, .f32⟩ : BufTy).Contents (Elt F)),
    StableHlo.binary main_v904 main_v906 main_v907 (mulf : (⟨S32x131072, .f32⟩ : BufTy).Contents (Elt F) → (⟨S32x131072, .f32⟩ : BufTy).Contents (Elt F) → (⟨S32x131072, .f32⟩ : BufTy).Contents (Elt F)) ]
theorem w19_eq (c : Dev nD) : main_part19 (F := F) c = seq w19 := rfl
theorem w19_sub : (w19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem w19_fresh : (w19 : List (HloOp τ sig (Elt F))).Forall fun op => op.fresh = ∅ := by
  simp only [List.Forall]; repeat' constructor
set_option maxHeartbeats 4000000 in
theorem w19_chain : Chain 1308 (w19 : List (HloOp τ sig (Elt F))) :=
  Chain.cons (stepAt_nullary 1308 _ _ rfl) <|
  Chain.cons (stepAt_unary 1309 _ _ _ rfl (by decide)) <|
  Chain.cons (stepAt_binary 1310 _ _ _ _ rfl (by decide) (by decide)) <|
  Chain.cons (stepAt_nullary 1311 _ _ rfl) <|
  Chain.cons (stepAt_unary 1312 _ _ _ rfl (by decide)) <|
  Chain.cons (stepAt_binary 1313 _ _ _ _ rfl (by decide) (by decide)) <|
  Chain.cons (stepAt_ternary 1314 _ _ _ _ _ rfl (by decide) (by decide) (by decide)) <|
  Chain.cons (stepAt_unary 1315 _ _ _ rfl (by decide)) <|
  Chain.cons (stepAt_unary 1316 _ _ _ rfl (by decide)) <|
  Chain.cons (stepAt_binary 1317 _ _ _ _ rfl (by decide) (by decide)) <|
  Chain.cons (stepAt_binary 1318 _ _ _ _ rfl (by decide) (by decide)) <|
  Chain.cons (stepAt_nullary 1319 _ _ rfl) <|
  Chain.cons (stepAt_unary 1320 _ _ _ rfl (by decide)) <|
  Chain.cons (stepAt_binary 1321 _ _ _ _ rfl (by decide) (by decide)) <|
  Chain.cons (stepAt_nullary 1322 _ _ rfl) <|
  Chain.cons (stepAt_unary 1323 _ _ _ rfl (by decide)) <|
  Chain.cons (stepAt_binary 1324 _ _ _ _ rfl (by decide) (by decide)) <|
  Chain.cons (stepAt_ternary 1325 _ _ _ _ _ rfl (by decide) (by decide) (by decide)) <|
  Chain.cons (stepAt_nullary 1326 _ _ rfl) <|
  Chain.cons (stepAt_unary 1327 _ _ _ rfl (by decide)) <|
  Chain.cons (stepAt_binary 1328 _ _ _ _ rfl (by decide) (by decide)) <|
  Chain.cons (stepAt_nullary 1329 _ _ rfl) <|
  Chain.cons (stepAt_unary 1330 _ _ _ rfl (by decide)) <|
  Chain.cons (stepAt_binary 1331 _ _ _ _ rfl (by decide) (by decide)) <|
  Chain.cons (stepAt_ternary 1332 _ _ _ _ _ rfl (by decide) (by decide) (by decide)) <|
  Chain.cons (stepAt_unary 1333 _ _ _ rfl (by decide)) <|
  Chain.cons (stepAt_unary 1334 _ _ _ rfl (by decide)) <|
  Chain.cons (stepAt_binary 1335 _ _ _ _ rfl (by decide) (by decide)) <|
  Chain.cons (stepAt_binary 1336 _ _ _ _ rfl (by decide) (by decide)) <|
  Chain.cons (stepAt_nullary 1337 _ _ rfl) <|
  Chain.cons (stepAt_unary 1338 _ _ _ rfl (by decide)) <|
  Chain.cons (stepAt_binary 1339 _ _ _ _ rfl (by decide) (by decide)) <|
  Chain.cons (stepAt_unary 1340 _ _ _ rfl (by decide)) <|
  Chain.cons (stepAt_unary 1341 _ _ _ rfl (by decide)) <|
  Chain.cons (stepAt_binary 1342 _ _ _ _ rfl (by decide) (by decide)) <|
  Chain.cons (stepAt_nullary 1343 _ _ rfl) <|
  Chain.cons (stepAt_unary 1344 _ _ _ rfl (by decide)) <|
  Chain.cons (stepAt_binary 1345 _ _ _ _ rfl (by decide) (by decide)) <|
  Chain.cons (stepAt_unary 1346 _ _ _ rfl (by decide)) <|
  Chain.cons (stepAt_unary 1347 _ _ _ rfl (by decide)) <|
  Chain.cons (stepAt_binary 1348 _ _ _ _ rfl (by decide) (by decide)) <|
  Chain.cons (stepAt_unary 1349 _ _ _ rfl (by decide)) <|
  Chain.cons (stepAt_unary 1350 _ _ _ rfl (by decide)) <|
  Chain.cons (stepAt_binary 1351 _ _ _ _ rfl (by decide) (by decide)) <|
  Chain.cons (stepAt_nullary 1352 _ _ rfl) <|
  Chain.cons (stepAt_unary 1353 _ _ _ rfl (by decide)) <|
  Chain.cons (stepAt_binary 1354 _ _ _ _ rfl (by decide) (by decide)) <|
  Chain.cons (stepAt_unary 1355 _ _ _ rfl (by decide)) <|
  Chain.cons (stepAt_unary 1356 _ _ _ rfl (by decide)) <|
  Chain.cons (stepAt_binary 1357 _ _ _ _ rfl (by decide) (by decide)) <|
  Chain.cons (stepAt_binary 1358 _ _ _ _ rfl (by decide) (by decide)) <|
  Chain.cons (stepAt_nullary 1359 _ _ rfl) <|
  Chain.cons (stepAt_unary 1360 _ _ _ rfl (by decide)) <|
  Chain.cons (stepAt_binary 1361 _ _ _ _ rfl (by decide) (by decide)) <|
  Chain.cons (stepAt_unary 1362 _ _ _ rfl (by decide)) <|
  Chain.cons (stepAt_unary 1363 _ _ _ rfl (by decide)) <|
  Chain.cons (stepAt_binary 1364 _ _ _ _ rfl (by decide) (by decide)) <|
  Chain.cons (stepAt_unary 1365 _ _ _ rfl (by decide)) <|
  Chain.cons (stepAt_unary 1366 _ _ _ rfl (by decide)) <|
  Chain.cons (stepAt_binary 1367 _ _ _ _ rfl (by decide) (by decide)) <|
  Chain.nil
theorem w19_length : (w19 : List (HloOp τ sig (Elt F))).length = 60 := rfl

/-- Window 20 of @main: 75 operations, writing buffers 1368 … 1442. -/
abbrev w20 : List (HloOp τ sig (Elt F)) :=
  [ StableHlo.binary main_v899 main_v907 main_v908 (addf : (⟨S32x131072, .f32⟩ : BufTy).Contents (Elt F) → (⟨S32x131072, .f32⟩ : BufTy).Contents (Elt F) → (⟨S32x131072, .f32⟩ : BufTy).Contents (Elt F)),
    StableHlo.unary main_v813 main_v909 (broadcastInDim S1x131072 ![1] bcast_S131072_S1x131072_1 : (⟨S131072, .f32⟩ : BufTy).Contents (Elt F) → (⟨S1x131072, .f32⟩ : BufTy).Contents (Elt F)),
    StableHlo.unary main_v909 main_v910 (broadcastInDim S32x131072 ![0, 1] bcast_S1x131072_S32x131072_0_1 : (⟨S1x131072, .f32⟩ : BufTy).Contents (Elt F) → (⟨S32x131072, .f32⟩ : BufTy).Contents (Elt F)),
    StableHlo.binary main_v880 main_v910 main_v911 (mulf : (⟨S32x131072, .f32⟩ : BufTy).Contents (Elt F) → (⟨S32x131072, .f32⟩ : BufTy).Contents (Elt F) → (⟨S32x131072, .f32⟩ : BufTy).Contents (Elt F)),
    StableHlo.unary main_v814 main_v912 (broadcastInDim S1x131072 ![1] bcast_S131072_S1x131072_1 : (⟨S131072, .f32⟩ : BufTy).Contents (Elt F) → (⟨S1x131072, .f32⟩ : BufTy).Contents (Elt F)),
    StableHlo.unary main_v912 main_v913 (broadcastInDim S32x131072 ![0, 1] bcast_S1x131072_S32x131072_0_1 : (⟨S1x131072, .f32⟩ : BufTy).Contents (Elt F) → (⟨S32x131072, .f32⟩ : BufTy).Contents (Elt F)),
    StableHlo.binary main_v911 main_v913 main_v914 (mulf : (⟨S32x131072, .f32⟩ : BufTy).Contents (Elt F) → (⟨S32x131072, .f32⟩ : BufTy).Contents (Elt F) → (⟨S32x131072, .f32⟩ : BufTy).Contents (Elt F)),
    StableHlo.binary main_v908 main_v914 main_v915 (addf : (⟨S32x131072, .f32⟩ : BufTy).Contents (Elt F) → (⟨S32x131072, .f32⟩ : BufTy).Contents (Elt F) → (⟨S32x131072, .f32⟩ : BufTy).Contents (Elt F)),
    StableHlo.unary main_v915 main_v916 ((transpose S131072x32 [1, 0] · transposes_S32x131072_S131072x32_1_0) : (⟨S32x131072, .f32⟩ : BufTy).Contents (Elt F) → (⟨S131072x32, .f32⟩ : BufTy).Contents (Elt F)),
    StableHlo.nullary main_c_290 (constantI S_ 32 0#32),
    StableHlo.unary main_c_290 main_v917 (broadcastInDim S2 ![] bcast_S_S2 : (⟨S_, .i32⟩ : BufTy).Contents (Elt F) → (⟨S2, .i32⟩ : BufTy).Contents (Elt F)),
    StableHlo.binary main_c_6 main_v917 main_v918 (cmpi .slt : (⟨S2, .i32⟩ : BufTy).Contents (Elt F) → (⟨S2, .i32⟩ : BufTy).Contents (Elt F) → (⟨S2, .i1⟩ : BufTy).Contents (Elt F)),
    StableHlo.nullary main_c_291 (constantI S_ 32 4#32),
    StableHlo.unary main_c_291 main_v919 (broadcastInDim S2 ![] bcast_S_S2 : (⟨S_, .i32⟩ : BufTy).Contents (Elt F) → (⟨S2, .i32⟩ : BufTy).Contents (Elt F)),
    StableHlo.binary main_c_6 main_v919 main_v920 (addi : (⟨S2, .i32⟩ : BufTy).Contents (Elt F) → (⟨S2, .i32⟩ : BufTy).Contents (Elt F) → (⟨S2, .i32⟩ : BufTy).Contents (Elt F)),
    StableHlo.ternary main_v918 main_v920 main_c_6 main_v921 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v921 main_v922 (broadcastInDim S2x1 ![0] bcast_S2_S2x1_0 : (⟨S2, .i32⟩ : BufTy).Contents (Elt F) → (⟨S2x1, .i32⟩ : BufTy).Contents (Elt F)),
    StableHlo.binary main_v8 main_v922 main_v923 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v923 main_v924 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v924 main_v925 rfl shapeCasts_S131072x1_S131072,
    StableHlo.nullary main_cst_292 (constant S_ .f32 0x3F800000#32),
    StableHlo.unary main_cst_292 main_v926 (broadcastInDim S131072 ![] bcast_S_S131072 : (⟨S_, .f32⟩ : BufTy).Contents (Elt F) → (⟨S131072, .f32⟩ : BufTy).Contents (Elt F)),
    StableHlo.binary main_v925 main_v926 main_v927 (addf : (⟨S131072, .f32⟩ : BufTy).Contents (Elt F) → (⟨S131072, .f32⟩ : BufTy).Contents (Elt F) → (⟨S131072, .f32⟩ : BufTy).Contents (Elt F)),
    StableHlo.nullary main_cst_293 (constant S_ .f32 0x3F000000#32),
    StableHlo.unary main_cst_293 main_v928 (broadcastInDim S131072 ![] bcast_S_S131072 : (⟨S_, .f32⟩ : BufTy).Contents (Elt F) → (⟨S131072, .f32⟩ : BufTy).Contents (Elt F)),
    StableHlo.binary main_v927 main_v928 main_v929 (mulf : (⟨S131072, .f32⟩ : BufTy).Contents (Elt F) → (⟨S131072, .f32⟩ : BufTy).Contents (Elt F) → (⟨S131072, .f32⟩ : BufTy).Contents (Elt F)),
    StableHlo.nullary main_cst_294 (constant S_ .f32 0x42FE0000#32),
    StableHlo.unary main_cst_294 main_v930 (broadcastInDim S131072 ![] bcast_S_S131072 : (⟨S_, .f32⟩ : BufTy).Contents (Elt F) → (⟨S131072, .f32⟩ : BufTy).Contents (Elt F)),
    StableHlo.binary main_v929 main_v930 main_v931 (mulf : (⟨S131072, .f32⟩ : BufTy).Contents (Elt F) → (⟨S131072, .f32⟩ : BufTy).Contents (Elt F) → (⟨S131072, .f32⟩ : BufTy).Contents (Elt F)),
    StableHlo.unary main_v923 main_v932 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v932 main_v933 rfl shapeCasts_S131072x1_S131072,
    StableHlo.nullary main_cst_295 (constant S_ .f32 0x3F800000#32),
    StableHlo.unary main_cst_295 main_v934 (broadcastInDim S131072 ![] bcast_S_S131072 : (⟨S_, .f32⟩ : BufTy).Contents (Elt F) → (⟨S131072, .f32⟩ : BufTy).Contents (Elt F)),
    StableHlo.binary main_v933 main_v934 main_v935 (addf : (⟨S131072, .f32⟩ : BufTy).Contents (Elt F) → (⟨S131072, .f32⟩ : BufTy).Contents (Elt F) → (⟨S131072, .f32⟩ : BufTy).Contents (Elt F)),
    StableHlo.nullary main_cst_296 (constant S_ .f32 0x3F000000#32),
    StableHlo.unary main_cst_296 main_v936 (broadcastInDim S131072 ![] bcast_S_S131072 : (⟨S_, .f32⟩ : BufTy).Contents (Elt F) → (⟨S131072, .f32⟩ : BufTy).Contents (Elt F)),
    StableHlo.binary main_v935 main_v936 main_v937 (mulf : (⟨S131072, .f32⟩ : BufTy).Contents (Elt F) → (⟨S131072, .f32⟩ : BufTy).Contents (Elt F) → (⟨S131072, .f32⟩ : BufTy).Contents (Elt F)),
    StableHlo.nullary main_cst_297 (constant S_ .f32 0x42FE0000#32),
    StableHlo.unary main_cst_297 main_v938 (broadcastInDim S131072 ![] bcast_S_S131072 : (⟨S_, .f32⟩ : BufTy).Contents (Elt F) → (⟨S131072, .f32⟩ : BufTy).Contents (Elt F)),
    StableHlo.binary main_v937 main_v938 main_v939 (mulf : (⟨S131072, .f32⟩ : BufTy).Contents (Elt F) → (⟨S131072, .f32⟩ : BufTy).Contents (Elt F) → (⟨S131072, .f32⟩ : BufTy).Contents (Elt F)),
    StableHlo.unary main_v931 main_v940 (Host.floor : (⟨S131072, .f32⟩ : BufTy).Contents (Elt F) → (⟨S131072, .f32⟩ : BufTy).Contents (Elt F)),
    StableHlo.unary main_v939 main_v941 (Host.floor : (⟨S131072, .f32⟩ : BufTy).Contents (Elt F) → (⟨S131072, .f32⟩ : BufTy).Contents (Elt F)),
    StableHlo.binary main_v931 main_v940 main_v942 (subf : (⟨S131072, .f32⟩ : BufTy).Contents (Elt F) → (⟨S131072, .f32⟩ : BufTy).Contents (Elt F) → (⟨S131072, .f32⟩ : BufTy).Contents (Elt F)),
    StableHlo.binary main_v939 main_v941 main_v943 (subf : (⟨S131072, .f32⟩ : BufTy).Contents (Elt F) → (⟨S131072, .f32⟩ : BufTy).Contents (Elt F) → (⟨S131072, .f32⟩ : BufTy).Contents (Elt F)),
    StableHlo.unary main_v940 main_v944 (fptosi 32 : (⟨S131072, .f32⟩ : BufTy).Contents (Elt F) → (⟨S131072, .i32⟩ : BufTy).Contents (Elt F)),
    StableHlo.nullary main_c_298 (constantI S_ 32 0#32),
    StableHlo.nullary main_c_299 (constantI S_ 32 127#32),
    StableHlo.TRef.unary (.of main_c_298) main_call28.v0 id,
    StableHlo.TRef.unary main_call28.v0 main_call28.v1 (broadcastInDim S131072 ![] bcast_S_S131072),
    StableHlo.TRef.binary main_call28.v1 (.of main_v944) main_call28.v2 maxsi,
    StableHlo.TRef.unary (.of main_c_299) main_call28.v3 id,
    StableHlo.TRef.unary main_call28.v3 main_call28.v4 (broadcastInDim S131072 ![] bcast_S_S131072),
    StableHlo.TRef.binary main_call28.v4 main_call28.v2 main_call28.v5 minsi,
    StableHlo.nullary main_c_300 (constantI S_ 32 1#32),
    StableHlo.unary main_c_300 main_v946 (broadcastInDim S131072 ![] bcast_S_S131072 : (⟨S_, .i32⟩ : BufTy).Contents (Elt F) → (⟨S131072, .i32⟩ : BufTy).Contents (Elt F)),
    StableHlo.binary main_v945 main_v946 main_v947 (addi : (⟨S131072, .i32⟩ : BufTy).Contents (Elt F) → (⟨S131072, .i32⟩ : BufTy).Contents (Elt F) → (⟨S131072, .i32⟩ : BufTy).Contents (Elt F)),
    StableHlo.nullary main_c_301 (constantI S_ 32 0#32),
    StableHlo.nullary main_c_302 (constantI S_ 32 127#32),
    StableHlo.TRef.unary (.of main_c_301) main_call29.v0 id,
    StableHlo.TRef.unary main_call29.v0 main_call29.v1 (broadcastInDim S131072 ![] bcast_S_S131072),
    StableHlo.TRef.binary main_call29.v1 (.of main_v947) main_call29.v2 maxsi,
    StableHlo.TRef.unary (.of main_c_302) main_call29.v3 id,
    StableHlo.TRef.unary main_call29.v3 main_call29.v4 (broadcastInDim S131072 ![] bcast_S_S131072),
    StableHlo.TRef.binary main_call29.v4 main_call29.v2 main_call29.v5 minsi,
    StableHlo.unary main_v941 main_v949 (fptosi 32 : (⟨S131072, .f32⟩ : BufTy).Contents (Elt F) → (⟨S131072, .i32⟩ : BufTy).Contents (Elt F)),
    StableHlo.nullary main_c_303 (constantI S_ 32 0#32),
    StableHlo.nullary main_c_304 (constantI S_ 32 127#32),
    StableHlo.TRef.unary (.of main_c_303) main_call30.v0 id,
    StableHlo.TRef.unary main_call30.v0 main_call30.v1 (broadcastInDim S131072 ![] bcast_S_S131072),
    StableHlo.TRef.binary main_call30.v1 (.of main_v949) main_call30.v2 maxsi,
    StableHlo.TRef.unary (.of main_c_304) main_call30.v3 id,
    StableHlo.TRef.unary main_call30.v3 main_call30.v4 (broadcastInDim S131072 ![] bcast_S_S131072),
    StableHlo.TRef.binary main_call30.v4 main_call30.v2 main_call30.v5 minsi,
    StableHlo.nullary main_c_305 (constantI S_ 32 1#32),
    StableHlo.unary main_c_305 main_v951 (broadcastInDim S131072 ![] bcast_S_S131072 : (⟨S_, .i32⟩ : BufTy).Contents (Elt F) → (⟨S131072, .i32⟩ : BufTy).Contents (Elt F)) ]
theorem w20_eq (c : Dev nD) : main_part20 (F := F) c = seq w20 := rfl
theorem w20_sub : (w20 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub ..⟩
theorem w20_fresh : (w20 : List (HloOp τ sig (Elt F))).Forall fun op => op.fresh = ∅ := by
  simp only [List.Forall]; repeat' constructor
set_option maxHeartbeats 4000000 in
theorem w20_chain : Chain 1368 (w20 : List (HloOp τ sig (Elt F))) :=
  Chain.cons (stepAt_binary 1368 _ _ _ _ rfl (by decide) (by decide)) <|
  Chain.cons (stepAt_unary 1369 _ _ _ rfl (by decide)) <|
  Chain.cons (stepAt_unary 1370 _ _ _ rfl (by decide)) <|
  Chain.cons (stepAt_binary 1371 _ _ _ _ rfl (by decide) (by decide)) <|
  Chain.cons (stepAt_unary 1372 _ _ _ rfl (by decide)) <|
  Chain.cons (stepAt_unary 1373 _ _ _ rfl (by decide)) <|
  Chain.cons (stepAt_binary 1374 _ _ _ _ rfl (by decide) (by decide)) <|
  Chain.cons (stepAt_binary 1375 _ _ _ _ rfl (by decide) (by decide)) <|
  Chain.cons (stepAt_unary 1376 _ _ _ rfl (by decide)) <|
  Chain.cons (stepAt_nullary 1377 _ _ rfl) <|
  Chain.cons (stepAt_unary 1378 _ _ _ rfl (by decide)) <|
  Chain.cons (stepAt_binary 1379 _ _ _ _ rfl (by decide) (by decide)) <|
  Chain.cons (stepAt_nullary 1380 _ _ rfl) <|
  Chain.cons (stepAt_unary 1381 _ _ _ rfl (by decide)) <|
  Chain.cons (stepAt_binary 1382 _ _ _ _ rfl (by decide) (by decide)) <|
  Chain.cons (stepAt_ternary 1383 _ _ _ _ _ rfl (by decide) (by decide) (by decide)) <|
  Chain.cons (stepAt_unary 1384 _ _ _ rfl (by decide)) <|
  Chain.cons (stepAt_binary 1385 _ _ _ _ rfl (by decide) (by decide)) <|
  Chain.cons (stepAt_unary 1386 _ _ _ rfl (by decide)) <|
  Chain.cons (stepAt_reshape 1387 _ _ _ _ rfl (by decide)) <|
  Chain.cons (stepAt_nullary 1388 _ _ rfl) <|
  Chain.cons (stepAt_unary 1389 _ _ _ rfl (by decide)) <|
  Chain.cons (stepAt_binary 1390 _ _ _ _ rfl (by decide) (by decide)) <|
  Chain.cons (stepAt_nullary 1391 _ _ rfl) <|
  Chain.cons (stepAt_unary 1392 _ _ _ rfl (by decide)) <|
  Chain.cons (stepAt_binary 1393 _ _ _ _ rfl (by decide) (by decide)) <|
  Chain.cons (stepAt_nullary 1394 _ _ rfl) <|
  Chain.cons (stepAt_unary 1395 _ _ _ rfl (by decide)) <|
  Chain.cons (stepAt_binary 1396 _ _ _ _ rfl (by decide) (by decide)) <|
  Chain.cons (stepAt_unary 1397 _ _ _ rfl (by decide)) <|
  Chain.cons (stepAt_reshape 1398 _ _ _ _ rfl (by decide)) <|
  Chain.cons (stepAt_nullary 1399 _ _ rfl) <|
  Chain.cons (stepAt_unary 1400 _ _ _ rfl (by decide)) <|
  Chain.cons (stepAt_binary 1401 _ _ _ _ rfl (by decide) (by decide)) <|
  Chain.cons (stepAt_nullary 1402 _ _ rfl) <|
  Chain.cons (stepAt_unary 1403 _ _ _ rfl (by decide)) <|
  Chain.cons (stepAt_binary 1404 _ _ _ _ rfl (by decide) (by decide)) <|
  Chain.cons (stepAt_nullary 1405 _ _ rfl) <|
  Chain.cons (stepAt_unary 1406 _ _ _ rfl (by decide)) <|
  Chain.cons (stepAt_binary 1407 _ _ _ _ rfl (by decide) (by decide)) <|
  Chain.cons (stepAt_unary 1408 _ _ _ rfl (by decide)) <|
  Chain.cons (stepAt_unary 1409 _ _ _ rfl (by decide)) <|
  Chain.cons (stepAt_binary 1410 _ _ _ _ rfl (by decide) (by decide)) <|
  Chain.cons (stepAt_binary 1411 _ _ _ _ rfl (by decide) (by decide)) <|
  Chain.cons (stepAt_unary 1412 _ _ _ rfl (by decide)) <|
  Chain.cons (stepAt_nullary 1413 _ _ rfl) <|
  Chain.cons (stepAt_nullary 1414 _ _ rfl) <|
  Chain.cons (stepAt_unary 1415 _ _ _ rfl (by decide)) <|
  Chain.cons (stepAt_unary 1416 _ _ _ rfl (by decide)) <|
  Chain.cons (stepAt_binary 1417 _ _ _ _ rfl (by decide) (by decide)) <|
  Chain.cons (stepAt_unary 1418 _ _ _ rfl (by decide)) <|
  Chain.cons (stepAt_unary 1419 _ _ _ rfl (by decide)) <|
  Chain.cons (stepAt_binary 1420 _ _ _ _ rfl (by decide) (by decide)) <|
  Chain.cons (stepAt_nullary 1421 _ _ rfl) <|
  Chain.cons (stepAt_unary 1422 _ _ _ rfl (by decide)) <|
  Chain.cons (stepAt_binary 1423 _ _ _ _ rfl (by decide) (by decide)) <|
  Chain.cons (stepAt_nullary 1424 _ _ rfl) <|
  Chain.cons (stepAt_nullary 1425 _ _ rfl) <|
  Chain.cons (stepAt_unary 1426 _ _ _ rfl (by decide)) <|
  Chain.cons (stepAt_unary 1427 _ _ _ rfl (by decide)) <|
  Chain.cons (stepAt_binary 1428 _ _ _ _ rfl (by decide) (by decide)) <|
  Chain.cons (stepAt_unary 1429 _ _ _ rfl (by decide)) <|
  Chain.cons (stepAt_unary 1430 _ _ _ rfl (by decide)) <|
  Chain.cons (stepAt_binary 1431 _ _ _ _ rfl (by decide) (by decide)) <|
  Chain.cons (stepAt_unary 1432 _ _ _ rfl (by decide)) <|
  Chain.cons (stepAt_nullary 1433 _ _ rfl) <|
  Chain.cons (stepAt_nullary 1434 _ _ rfl) <|
  Chain.cons (stepAt_unary 1435 _ _ _ rfl (by decide)) <|
  Chain.cons (stepAt_unary 1436 _ _ _ rfl (by decide)) <|
  Chain.cons (stepAt_binary 1437 _ _ _ _ rfl (by decide) (by decide)) <|
  Chain.cons (stepAt_unary 1438 _ _ _ rfl (by decide)) <|
  Chain.cons (stepAt_unary 1439 _ _ _ rfl (by decide)) <|
  Chain.cons (stepAt_binary 1440 _ _ _ _ rfl (by decide) (by decide)) <|
  Chain.cons (stepAt_nullary 1441 _ _ rfl) <|
  Chain.cons (stepAt_unary 1442 _ _ _ rfl (by decide)) <|
  Chain.nil
theorem w20_length : (w20 : List (HloOp τ sig (Elt F))).length = 75 := rfl

/-- Window 21 of @main: 65 operations, writing buffers 1443 … 1507. -/
abbrev w21 : List (HloOp τ sig (Elt F)) :=
  [ StableHlo.binary main_v950 main_v951 main_v952 (addi : (⟨S131072, .i32⟩ : BufTy).Contents (Elt F) → (⟨S131072, .i32⟩ : BufTy).Contents (Elt F) → (⟨S131072, .i32⟩ : BufTy).Contents (Elt F)),
    StableHlo.nullary main_c_306 (constantI S_ 32 0#32),
    StableHlo.nullary main_c_307 (constantI S_ 32 127#32),
    StableHlo.TRef.unary (.of main_c_306) main_call31.v0 id,
    StableHlo.TRef.unary main_call31.v0 main_call31.v1 (broadcastInDim S131072 ![] bcast_S_S131072),
    StableHlo.TRef.binary main_call31.v1 (.of main_v952) main_call31.v2 maxsi,
    StableHlo.TRef.unary (.of main_c_307) main_call31.v3 id,
    StableHlo.TRef.unary main_call31.v3 main_call31.v4 (broadcastInDim S131072 ![] bcast_S_S131072),
    StableHlo.TRef.binary main_call31.v4 main_call31.v2 main_call31.v5 minsi,
    StableHlo.nullary main_c_308 (constantI S_ 32 0#32),
    StableHlo.unary main_c_308 main_v954 (broadcastInDim S131072 ![] bcast_S_S131072 : (⟨S_, .i32⟩ : BufTy).Contents (Elt F) → (⟨S131072, .i32⟩ : BufTy).Contents (Elt F)),
    StableHlo.binary main_v950 main_v954 main_v955 (cmpi .slt : (⟨S131072, .i32⟩ : BufTy).Contents (Elt F) → (⟨S131072, .i32⟩ : BufTy).Contents (Elt F) → (⟨S131072, .i1⟩ : BufTy).Contents (Elt F)),
    StableHlo.nullary main_c_309 (constantI S_ 32 128#32),
    StableHlo.unary main_c_309 main_v956 (broadcastInDim S131072 ![] bcast_S_S131072 : (⟨S_, .i32⟩ : BufTy).Contents (Elt F) → (⟨S131072, .i32⟩ : BufTy).Contents (Elt F)),
    StableHlo.binary main_v950 main_v956 main_v957 (addi : (⟨S131072, .i32⟩ : BufTy).Contents (Elt F) → (⟨S131072, .i32⟩ : BufTy).Contents (Elt F) → (⟨S131072, .i32⟩ : BufTy).Contents (Elt F)),
    StableHlo.ternary main_v955 main_v957 main_v950 main_v958 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_310 (constantI S_ 32 0#32),
    StableHlo.unary main_c_310 main_v959 (broadcastInDim S131072 ![] bcast_S_S131072 : (⟨S_, .i32⟩ : BufTy).Contents (Elt F) → (⟨S131072, .i32⟩ : BufTy).Contents (Elt F)),
    StableHlo.binary main_v945 main_v959 main_v960 (cmpi .slt : (⟨S131072, .i32⟩ : BufTy).Contents (Elt F) → (⟨S131072, .i32⟩ : BufTy).Contents (Elt F) → (⟨S131072, .i1⟩ : BufTy).Contents (Elt F)),
    StableHlo.nullary main_c_311 (constantI S_ 32 128#32),
    StableHlo.unary main_c_311 main_v961 (broadcastInDim S131072 ![] bcast_S_S131072 : (⟨S_, .i32⟩ : BufTy).Contents (Elt F) → (⟨S131072, .i32⟩ : BufTy).Contents (Elt F)),
    StableHlo.binary main_v945 main_v961 main_v962 (addi : (⟨S131072, .i32⟩ : BufTy).Contents (Elt F) → (⟨S131072, .i32⟩ : BufTy).Contents (Elt F) → (⟨S131072, .i32⟩ : BufTy).Contents (Elt F)),
    StableHlo.ternary main_v960 main_v962 main_v945 main_v963 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v958 main_v964 (broadcastInDim S131072x1 ![0] bcast_S131072_S131072x1_0 : (⟨S131072, .i32⟩ : BufTy).Contents (Elt F) → (⟨S131072x1, .i32⟩ : BufTy).Contents (Elt F)),
    StableHlo.unary main_v963 main_v965 (broadcastInDim S131072x1 ![0] bcast_S131072_S131072x1_0 : (⟨S131072, .i32⟩ : BufTy).Contents (Elt F) → (⟨S131072x1, .i32⟩ : BufTy).Contents (Elt F)),
    StableHlo.binary main_v964 main_v965 main_v966 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg9 main_v966 main_v967 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_312 (constantI S_ 32 0#32),
    StableHlo.unary main_c_312 main_v968 (broadcastInDim S131072 ![] bcast_S_S131072 : (⟨S_, .i32⟩ : BufTy).Contents (Elt F) → (⟨S131072, .i32⟩ : BufTy).Contents (Elt F)),
    StableHlo.binary main_v950 main_v968 main_v969 (cmpi .slt : (⟨S131072, .i32⟩ : BufTy).Contents (Elt F) → (⟨S131072, .i32⟩ : BufTy).Contents (Elt F) → (⟨S131072, .i1⟩ : BufTy).Contents (Elt F)),
    StableHlo.nullary main_c_313 (constantI S_ 32 128#32),
    StableHlo.unary main_c_313 main_v970 (broadcastInDim S131072 ![] bcast_S_S131072 : (⟨S_, .i32⟩ : BufTy).Contents (Elt F) → (⟨S131072, .i32⟩ : BufTy).Contents (Elt F)),
    StableHlo.binary main_v950 main_v970 main_v971 (addi : (⟨S131072, .i32⟩ : BufTy).Contents (Elt F) → (⟨S131072, .i32⟩ : BufTy).Contents (Elt F) → (⟨S131072, .i32⟩ : BufTy).Contents (Elt F)),
    StableHlo.ternary main_v969 main_v971 main_v950 main_v972 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_314 (constantI S_ 32 0#32),
    StableHlo.unary main_c_314 main_v973 (broadcastInDim S131072 ![] bcast_S_S131072 : (⟨S_, .i32⟩ : BufTy).Contents (Elt F) → (⟨S131072, .i32⟩ : BufTy).Contents (Elt F)),
    StableHlo.binary main_v948 main_v973 main_v974 (cmpi .slt : (⟨S131072, .i32⟩ : BufTy).Contents (Elt F) → (⟨S131072, .i32⟩ : BufTy).Contents (Elt F) → (⟨S131072, .i1⟩ : BufTy).Contents (Elt F)),
    StableHlo.nullary main_c_315 (constantI S_ 32 128#32),
    StableHlo.unary main_c_315 main_v975 (broadcastInDim S131072 ![] bcast_S_S131072 : (⟨S_, .i32⟩ : BufTy).Contents (Elt F) → (⟨S131072, .i32⟩ : BufTy).Contents (Elt F)),
    StableHlo.binary main_v948 main_v975 main_v976 (addi : (⟨S131072, .i32⟩ : BufTy).Contents (Elt F) → (⟨S131072, .i32⟩ : BufTy).Contents (Elt F) → (⟨S131072, .i32⟩ : BufTy).Contents (Elt F)),
    StableHlo.ternary main_v974 main_v976 main_v948 main_v977 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v972 main_v978 (broadcastInDim S131072x1 ![0] bcast_S131072_S131072x1_0 : (⟨S131072, .i32⟩ : BufTy).Contents (Elt F) → (⟨S131072x1, .i32⟩ : BufTy).Contents (Elt F)),
    StableHlo.unary main_v977 main_v979 (broadcastInDim S131072x1 ![0] bcast_S131072_S131072x1_0 : (⟨S131072, .i32⟩ : BufTy).Contents (Elt F) → (⟨S131072x1, .i32⟩ : BufTy).Contents (Elt F)),
    StableHlo.binary main_v978 main_v979 main_v980 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg9 main_v980 main_v981 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_316 (constantI S_ 32 0#32),
    StableHlo.unary main_c_316 main_v982 (broadcastInDim S131072 ![] bcast_S_S131072 : (⟨S_, .i32⟩ : BufTy).Contents (Elt F) → (⟨S131072, .i32⟩ : BufTy).Contents (Elt F)),
    StableHlo.binary main_v953 main_v982 main_v983 (cmpi .slt : (⟨S131072, .i32⟩ : BufTy).Contents (Elt F) → (⟨S131072, .i32⟩ : BufTy).Contents (Elt F) → (⟨S131072, .i1⟩ : BufTy).Contents (Elt F)),
    StableHlo.nullary main_c_317 (constantI S_ 32 128#32),
    StableHlo.unary main_c_317 main_v984 (broadcastInDim S131072 ![] bcast_S_S131072 : (⟨S_, .i32⟩ : BufTy).Contents (Elt F) → (⟨S131072, .i32⟩ : BufTy).Contents (Elt F)),
    StableHlo.binary main_v953 main_v984 main_v985 (addi : (⟨S131072, .i32⟩ : BufTy).Contents (Elt F) → (⟨S131072, .i32⟩ : BufTy).Contents (Elt F) → (⟨S131072, .i32⟩ : BufTy).Contents (Elt F)),
    StableHlo.ternary main_v983 main_v985 main_v953 main_v986 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_318 (constantI S_ 32 0#32),
    StableHlo.unary main_c_318 main_v987 (broadcastInDim S131072 ![] bcast_S_S131072 : (⟨S_, .i32⟩ : BufTy).Contents (Elt F) → (⟨S131072, .i32⟩ : BufTy).Contents (Elt F)),
    StableHlo.binary main_v945 main_v987 main_v988 (cmpi .slt : (⟨S131072, .i32⟩ : BufTy).Contents (Elt F) → (⟨S131072, .i32⟩ : BufTy).Contents (Elt F) → (⟨S131072, .i1⟩ : BufTy).Contents (Elt F)),
    StableHlo.nullary main_c_319 (constantI S_ 32 128#32),
    StableHlo.unary main_c_319 main_v989 (broadcastInDim S131072 ![] bcast_S_S131072 : (⟨S_, .i32⟩ : BufTy).Contents (Elt F) → (⟨S131072, .i32⟩ : BufTy).Contents (Elt F)),
    StableHlo.binary main_v945 main_v989 main_v990 (addi : (⟨S131072, .i32⟩ : BufTy).Contents (Elt F) → (⟨S131072, .i32⟩ : BufTy).Contents (Elt F) → (⟨S131072, .i32⟩ : BufTy).Contents (Elt F)),
    StableHlo.ternary main_v988 main_v990 main_v945 main_v991 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v986 main_v992 (broadcastInDim S131072x1 ![0] bcast_S131072_S131072x1_0 : (⟨S131072, .i32⟩ : BufTy).Contents (Elt F) → (⟨S131072x1, .i32⟩ : BufTy).Contents (Elt F)),
    StableHlo.unary main_v991 main_v993 (broadcastInDim S131072x1 ![0] bcast_S131072_S131072x1_0 : (⟨S131072, .i32⟩ : BufTy).Contents (Elt F) → (⟨S131072x1, .i32⟩ : BufTy).Contents (Elt F)),
    StableHlo.binary main_v992 main_v993 main_v994 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg9 main_v994 main_v995 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_320 (constantI S_ 32 0#32),
    StableHlo.unary main_c_320 main_v996 (broadcastInDim S131072 ![] bcast_S_S131072 : (⟨S_, .i32⟩ : BufTy).Contents (Elt F) → (⟨S131072, .i32⟩ : BufTy).Contents (Elt F)) ]
theorem w21_eq (c : Dev nD) : main_part21 (F := F) c = seq w21 := rfl
theorem w21_sub : (w21 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub ..⟩
theorem w21_fresh : (w21 : List (HloOp τ sig (Elt F))).Forall fun op => op.fresh = ∅ := by
  simp only [List.Forall]; repeat' constructor
set_option maxHeartbeats 4000000 in
theorem w21_chain : Chain 1443 (w21 : List (HloOp τ sig (Elt F))) :=
  Chain.cons (stepAt_binary 1443 _ _ _ _ rfl (by decide) (by decide)) <|
  Chain.cons (stepAt_nullary 1444 _ _ rfl) <|
  Chain.cons (stepAt_nullary 1445 _ _ rfl) <|
  Chain.cons (stepAt_unary 1446 _ _ _ rfl (by decide)) <|
  Chain.cons (stepAt_unary 1447 _ _ _ rfl (by decide)) <|
  Chain.cons (stepAt_binary 1448 _ _ _ _ rfl (by decide) (by decide)) <|
  Chain.cons (stepAt_unary 1449 _ _ _ rfl (by decide)) <|
  Chain.cons (stepAt_unary 1450 _ _ _ rfl (by decide)) <|
  Chain.cons (stepAt_binary 1451 _ _ _ _ rfl (by decide) (by decide)) <|
  Chain.cons (stepAt_nullary 1452 _ _ rfl) <|
  Chain.cons (stepAt_unary 1453 _ _ _ rfl (by decide)) <|
  Chain.cons (stepAt_binary 1454 _ _ _ _ rfl (by decide) (by decide)) <|
  Chain.cons (stepAt_nullary 1455 _ _ rfl) <|
  Chain.cons (stepAt_unary 1456 _ _ _ rfl (by decide)) <|
  Chain.cons (stepAt_binary 1457 _ _ _ _ rfl (by decide) (by decide)) <|
  Chain.cons (stepAt_ternary 1458 _ _ _ _ _ rfl (by decide) (by decide) (by decide)) <|
  Chain.cons (stepAt_nullary 1459 _ _ rfl) <|
  Chain.cons (stepAt_unary 1460 _ _ _ rfl (by decide)) <|
  Chain.cons (stepAt_binary 1461 _ _ _ _ rfl (by decide) (by decide)) <|
  Chain.cons (stepAt_nullary 1462 _ _ rfl) <|
  Chain.cons (stepAt_unary 1463 _ _ _ rfl (by decide)) <|
  Chain.cons (stepAt_binary 1464 _ _ _ _ rfl (by decide) (by decide)) <|
  Chain.cons (stepAt_ternary 1465 _ _ _ _ _ rfl (by decide) (by decide) (by decide)) <|
  Chain.cons (stepAt_unary 1466 _ _ _ rfl (by decide)) <|
  Chain.cons (stepAt_unary 1467 _ _ _ rfl (by decide)) <|
  Chain.cons (stepAt_binary 1468 _ _ _ _ rfl (by decide) (by decide)) <|
  Chain.cons (stepAt_binary 1469 _ _ _ _ rfl (by decide) (by decide)) <|
  Chain.cons (stepAt_nullary 1470 _ _ rfl) <|
  Chain.cons (stepAt_unary 1471 _ _ _ rfl (by decide)) <|
  Chain.cons (stepAt_binary 1472 _ _ _ _ rfl (by decide) (by decide)) <|
  Chain.cons (stepAt_nullary 1473 _ _ rfl) <|
  Chain.cons (stepAt_unary 1474 _ _ _ rfl (by decide)) <|
  Chain.cons (stepAt_binary 1475 _ _ _ _ rfl (by decide) (by decide)) <|
  Chain.cons (stepAt_ternary 1476 _ _ _ _ _ rfl (by decide) (by decide) (by decide)) <|
  Chain.cons (stepAt_nullary 1477 _ _ rfl) <|
  Chain.cons (stepAt_unary 1478 _ _ _ rfl (by decide)) <|
  Chain.cons (stepAt_binary 1479 _ _ _ _ rfl (by decide) (by decide)) <|
  Chain.cons (stepAt_nullary 1480 _ _ rfl) <|
  Chain.cons (stepAt_unary 1481 _ _ _ rfl (by decide)) <|
  Chain.cons (stepAt_binary 1482 _ _ _ _ rfl (by decide) (by decide)) <|
  Chain.cons (stepAt_ternary 1483 _ _ _ _ _ rfl (by decide) (by decide) (by decide)) <|
  Chain.cons (stepAt_unary 1484 _ _ _ rfl (by decide)) <|
  Chain.cons (stepAt_unary 1485 _ _ _ rfl (by decide)) <|
  Chain.cons (stepAt_binary 1486 _ _ _ _ rfl (by decide) (by decide)) <|
  Chain.cons (stepAt_binary 1487 _ _ _ _ rfl (by decide) (by decide)) <|
  Chain.cons (stepAt_nullary 1488 _ _ rfl) <|
  Chain.cons (stepAt_unary 1489 _ _ _ rfl (by decide)) <|
  Chain.cons (stepAt_binary 1490 _ _ _ _ rfl (by decide) (by decide)) <|
  Chain.cons (stepAt_nullary 1491 _ _ rfl) <|
  Chain.cons (stepAt_unary 1492 _ _ _ rfl (by decide)) <|
  Chain.cons (stepAt_binary 1493 _ _ _ _ rfl (by decide) (by decide)) <|
  Chain.cons (stepAt_ternary 1494 _ _ _ _ _ rfl (by decide) (by decide) (by decide)) <|
  Chain.cons (stepAt_nullary 1495 _ _ rfl) <|
  Chain.cons (stepAt_unary 1496 _ _ _ rfl (by decide)) <|
  Chain.cons (stepAt_binary 1497 _ _ _ _ rfl (by decide) (by decide)) <|
  Chain.cons (stepAt_nullary 1498 _ _ rfl) <|
  Chain.cons (stepAt_unary 1499 _ _ _ rfl (by decide)) <|
  Chain.cons (stepAt_binary 1500 _ _ _ _ rfl (by decide) (by decide)) <|
  Chain.cons (stepAt_ternary 1501 _ _ _ _ _ rfl (by decide) (by decide) (by decide)) <|
  Chain.cons (stepAt_unary 1502 _ _ _ rfl (by decide)) <|
  Chain.cons (stepAt_unary 1503 _ _ _ rfl (by decide)) <|
  Chain.cons (stepAt_binary 1504 _ _ _ _ rfl (by decide) (by decide)) <|
  Chain.cons (stepAt_binary 1505 _ _ _ _ rfl (by decide) (by decide)) <|
  Chain.cons (stepAt_nullary 1506 _ _ rfl) <|
  Chain.cons (stepAt_unary 1507 _ _ _ rfl (by decide)) <|
  Chain.nil
theorem w21_length : (w21 : List (HloOp τ sig (Elt F))).length = 65 := rfl

/-- Window 22 of @main: 60 operations, writing buffers 1508 … 1567. -/
abbrev w22 : List (HloOp τ sig (Elt F)) :=
  [ StableHlo.binary main_v953 main_v996 main_v997 (cmpi .slt : (⟨S131072, .i32⟩ : BufTy).Contents (Elt F) → (⟨S131072, .i32⟩ : BufTy).Contents (Elt F) → (⟨S131072, .i1⟩ : BufTy).Contents (Elt F)),
    StableHlo.nullary main_c_321 (constantI S_ 32 128#32),
    StableHlo.unary main_c_321 main_v998 (broadcastInDim S131072 ![] bcast_S_S131072 : (⟨S_, .i32⟩ : BufTy).Contents (Elt F) → (⟨S131072, .i32⟩ : BufTy).Contents (Elt F)),
    StableHlo.binary main_v953 main_v998 main_v999 (addi : (⟨S131072, .i32⟩ : BufTy).Contents (Elt F) → (⟨S131072, .i32⟩ : BufTy).Contents (Elt F) → (⟨S131072, .i32⟩ : BufTy).Contents (Elt F)),
    StableHlo.ternary main_v997 main_v999 main_v953 main_v1000 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_322 (constantI S_ 32 0#32),
    StableHlo.unary main_c_322 main_v1001 (broadcastInDim S131072 ![] bcast_S_S131072 : (⟨S_, .i32⟩ : BufTy).Contents (Elt F) → (⟨S131072, .i32⟩ : BufTy).Contents (Elt F)),
    StableHlo.binary main_v948 main_v1001 main_v1002 (cmpi .slt : (⟨S131072, .i32⟩ : BufTy).Contents (Elt F) → (⟨S131072, .i32⟩ : BufTy).Contents (Elt F) → (⟨S131072, .i1⟩ : BufTy).Contents (Elt F)),
    StableHlo.nullary main_c_323 (constantI S_ 32 128#32),
    StableHlo.unary main_c_323 main_v1003 (broadcastInDim S131072 ![] bcast_S_S131072 : (⟨S_, .i32⟩ : BufTy).Contents (Elt F) → (⟨S131072, .i32⟩ : BufTy).Contents (Elt F)),
    StableHlo.binary main_v948 main_v1003 main_v1004 (addi : (⟨S131072, .i32⟩ : BufTy).Contents (Elt F) → (⟨S131072, .i32⟩ : BufTy).Contents (Elt F) → (⟨S131072, .i32⟩ : BufTy).Contents (Elt F)),
    StableHlo.ternary main_v1002 main_v1004 main_v948 main_v1005 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1000 main_v1006 (broadcastInDim S131072x1 ![0] bcast_S131072_S131072x1_0 : (⟨S131072, .i32⟩ : BufTy).Contents (Elt F) → (⟨S131072x1, .i32⟩ : BufTy).Contents (Elt F)),
    StableHlo.unary main_v1005 main_v1007 (broadcastInDim S131072x1 ![0] bcast_S131072_S131072x1_0 : (⟨S131072, .i32⟩ : BufTy).Contents (Elt F) → (⟨S131072x1, .i32⟩ : BufTy).Contents (Elt F)),
    StableHlo.binary main_v1006 main_v1007 main_v1008 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg9 main_v1008 main_v1009 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_cst_324 (constant S_ .f32 0x3F800000#32),
    StableHlo.unary main_cst_324 main_v1010 (broadcastInDim S131072 ![] bcast_S_S131072 : (⟨S_, .f32⟩ : BufTy).Contents (Elt F) → (⟨S131072, .f32⟩ : BufTy).Contents (Elt F)),
    StableHlo.binary main_v1010 main_v942 main_v1011 (subf : (⟨S131072, .f32⟩ : BufTy).Contents (Elt F) → (⟨S131072, .f32⟩ : BufTy).Contents (Elt F) → (⟨S131072, .f32⟩ : BufTy).Contents (Elt F)),
    StableHlo.unary main_v1011 main_v1012 (broadcastInDim S1x131072 ![1] bcast_S131072_S1x131072_1 : (⟨S131072, .f32⟩ : BufTy).Contents (Elt F) → (⟨S1x131072, .f32⟩ : BufTy).Contents (Elt F)),
    StableHlo.unary main_v1012 main_v1013 (broadcastInDim S32x131072 ![0, 1] bcast_S1x131072_S32x131072_0_1 : (⟨S1x131072, .f32⟩ : BufTy).Contents (Elt F) → (⟨S32x131072, .f32⟩ : BufTy).Contents (Elt F)),
    StableHlo.binary main_v967 main_v1013 main_v1014 (mulf : (⟨S32x131072, .f32⟩ : BufTy).Contents (Elt F) → (⟨S32x131072, .f32⟩ : BufTy).Contents (Elt F) → (⟨S32x131072, .f32⟩ : BufTy).Contents (Elt F)),
    StableHlo.nullary main_cst_325 (constant S_ .f32 0x3F800000#32),
    StableHlo.unary main_cst_325 main_v1015 (broadcastInDim S131072 ![] bcast_S_S131072 : (⟨S_, .f32⟩ : BufTy).Contents (Elt F) → (⟨S131072, .f32⟩ : BufTy).Contents (Elt F)),
    StableHlo.binary main_v1015 main_v943 main_v1016 (subf : (⟨S131072, .f32⟩ : BufTy).Contents (Elt F) → (⟨S131072, .f32⟩ : BufTy).Contents (Elt F) → (⟨S131072, .f32⟩ : BufTy).Contents (Elt F)),
    StableHlo.unary main_v1016 main_v1017 (broadcastInDim S1x131072 ![1] bcast_S131072_S1x131072_1 : (⟨S131072, .f32⟩ : BufTy).Contents (Elt F) → (⟨S1x131072, .f32⟩ : BufTy).Contents (Elt F)),
    StableHlo.unary main_v1017 main_v1018 (broadcastInDim S32x131072 ![0, 1] bcast_S1x131072_S32x131072_0_1 : (⟨S1x131072, .f32⟩ : BufTy).Contents (Elt F) → (⟨S32x131072, .f32⟩ : BufTy).Contents (Elt F)),
    StableHlo.binary main_v1014 main_v1018 main_v1019 (mulf : (⟨S32x131072, .f32⟩ : BufTy).Contents (Elt F) → (⟨S32x131072, .f32⟩ : BufTy).Contents (Elt F) → (⟨S32x131072, .f32⟩ : BufTy).Contents (Elt F)),
    StableHlo.unary main_v942 main_v1020 (broadcastInDim S1x131072 ![1] bcast_S131072_S1x131072_1 : (⟨S131072, .f32⟩ : BufTy).Contents (Elt F) → (⟨S1x131072, .f32⟩ : BufTy).Contents (Elt F)),
    StableHlo.unary main_v1020 main_v1021 (broadcastInDim S32x131072 ![0, 1] bcast_S1x131072_S32x131072_0_1 : (⟨S1x131072, .f32⟩ : BufTy).Contents (Elt F) → (⟨S32x131072, .f32⟩ : BufTy).Contents (Elt F)),
    StableHlo.binary main_v981 main_v1021 main_v1022 (mulf : (⟨S32x131072, .f32⟩ : BufTy).Contents (Elt F) → (⟨S32x131072, .f32⟩ : BufTy).Contents (Elt F) → (⟨S32x131072, .f32⟩ : BufTy).Contents (Elt F)),
    StableHlo.nullary main_cst_326 (constant S_ .f32 0x3F800000#32),
    StableHlo.unary main_cst_326 main_v1023 (broadcastInDim S131072 ![] bcast_S_S131072 : (⟨S_, .f32⟩ : BufTy).Contents (Elt F) → (⟨S131072, .f32⟩ : BufTy).Contents (Elt F)),
    StableHlo.binary main_v1023 main_v943 main_v1024 (subf : (⟨S131072, .f32⟩ : BufTy).Contents (Elt F) → (⟨S131072, .f32⟩ : BufTy).Contents (Elt F) → (⟨S131072, .f32⟩ : BufTy).Contents (Elt F)),
    StableHlo.unary main_v1024 main_v1025 (broadcastInDim S1x131072 ![1] bcast_S131072_S1x131072_1 : (⟨S131072, .f32⟩ : BufTy).Contents (Elt F) → (⟨S1x131072, .f32⟩ : BufTy).Contents (Elt F)),
    StableHlo.unary main_v1025 main_v1026 (broadcastInDim S32x131072 ![0, 1] bcast_S1x131072_S32x131072_0_1 : (⟨S1x131072, .f32⟩ : BufTy).Contents (Elt F) → (⟨S32x131072, .f32⟩ : BufTy).Contents (Elt F)),
    StableHlo.binary main_v1022 main_v1026 main_v1027 (mulf : (⟨S32x131072, .f32⟩ : BufTy).Contents (Elt F) → (⟨S32x131072, .f32⟩ : BufTy).Contents (Elt F) → (⟨S32x131072, .f32⟩ : BufTy).Contents (Elt F)),
    StableHlo.binary main_v1019 main_v1027 main_v1028 (addf : (⟨S32x131072, .f32⟩ : BufTy).Contents (Elt F) → (⟨S32x131072, .f32⟩ : BufTy).Contents (Elt F) → (⟨S32x131072, .f32⟩ : BufTy).Contents (Elt F)),
    StableHlo.nullary main_cst_327 (constant S_ .f32 0x3F800000#32),
    StableHlo.unary main_cst_327 main_v1029 (broadcastInDim S131072 ![] bcast_S_S131072 : (⟨S_, .f32⟩ : BufTy).Contents (Elt F) → (⟨S131072, .f32⟩ : BufTy).Contents (Elt F)),
    StableHlo.binary main_v1029 main_v942 main_v1030 (subf : (⟨S131072, .f32⟩ : BufTy).Contents (Elt F) → (⟨S131072, .f32⟩ : BufTy).Contents (Elt F) → (⟨S131072, .f32⟩ : BufTy).Contents (Elt F)),
    StableHlo.unary main_v1030 main_v1031 (broadcastInDim S1x131072 ![1] bcast_S131072_S1x131072_1 : (⟨S131072, .f32⟩ : BufTy).Contents (Elt F) → (⟨S1x131072, .f32⟩ : BufTy).Contents (Elt F)),
    StableHlo.unary main_v1031 main_v1032 (broadcastInDim S32x131072 ![0, 1] bcast_S1x131072_S32x131072_0_1 : (⟨S1x131072, .f32⟩ : BufTy).Contents (Elt F) → (⟨S32x131072, .f32⟩ : BufTy).Contents (Elt F)),
    StableHlo.binary main_v995 main_v1032 main_v1033 (mulf : (⟨S32x131072, .f32⟩ : BufTy).Contents (Elt F) → (⟨S32x131072, .f32⟩ : BufTy).Contents (Elt F) → (⟨S32x131072, .f32⟩ : BufTy).Contents (Elt F)),
    StableHlo.unary main_v943 main_v1034 (broadcastInDim S1x131072 ![1] bcast_S131072_S1x131072_1 : (⟨S131072, .f32⟩ : BufTy).Contents (Elt F) → (⟨S1x131072, .f32⟩ : BufTy).Contents (Elt F)),
    StableHlo.unary main_v1034 main_v1035 (broadcastInDim S32x131072 ![0, 1] bcast_S1x131072_S32x131072_0_1 : (⟨S1x131072, .f32⟩ : BufTy).Contents (Elt F) → (⟨S32x131072, .f32⟩ : BufTy).Contents (Elt F)),
    StableHlo.binary main_v1033 main_v1035 main_v1036 (mulf : (⟨S32x131072, .f32⟩ : BufTy).Contents (Elt F) → (⟨S32x131072, .f32⟩ : BufTy).Contents (Elt F) → (⟨S32x131072, .f32⟩ : BufTy).Contents (Elt F)),
    StableHlo.binary main_v1028 main_v1036 main_v1037 (addf : (⟨S32x131072, .f32⟩ : BufTy).Contents (Elt F) → (⟨S32x131072, .f32⟩ : BufTy).Contents (Elt F) → (⟨S32x131072, .f32⟩ : BufTy).Contents (Elt F)),
    StableHlo.unary main_v942 main_v1038 (broadcastInDim S1x131072 ![1] bcast_S131072_S1x131072_1 : (⟨S131072, .f32⟩ : BufTy).Contents (Elt F) → (⟨S1x131072, .f32⟩ : BufTy).Contents (Elt F)),
    StableHlo.unary main_v1038 main_v1039 (broadcastInDim S32x131072 ![0, 1] bcast_S1x131072_S32x131072_0_1 : (⟨S1x131072, .f32⟩ : BufTy).Contents (Elt F) → (⟨S32x131072, .f32⟩ : BufTy).Contents (Elt F)),
    StableHlo.binary main_v1009 main_v1039 main_v1040 (mulf : (⟨S32x131072, .f32⟩ : BufTy).Contents (Elt F) → (⟨S32x131072, .f32⟩ : BufTy).Contents (Elt F) → (⟨S32x131072, .f32⟩ : BufTy).Contents (Elt F)),
    StableHlo.unary main_v943 main_v1041 (broadcastInDim S1x131072 ![1] bcast_S131072_S1x131072_1 : (⟨S131072, .f32⟩ : BufTy).Contents (Elt F) → (⟨S1x131072, .f32⟩ : BufTy).Contents (Elt F)),
    StableHlo.unary main_v1041 main_v1042 (broadcastInDim S32x131072 ![0, 1] bcast_S1x131072_S32x131072_0_1 : (⟨S1x131072, .f32⟩ : BufTy).Contents (Elt F) → (⟨S32x131072, .f32⟩ : BufTy).Contents (Elt F)),
    StableHlo.binary main_v1040 main_v1042 main_v1043 (mulf : (⟨S32x131072, .f32⟩ : BufTy).Contents (Elt F) → (⟨S32x131072, .f32⟩ : BufTy).Contents (Elt F) → (⟨S32x131072, .f32⟩ : BufTy).Contents (Elt F)),
    StableHlo.binary main_v1037 main_v1043 main_v1044 (addf : (⟨S32x131072, .f32⟩ : BufTy).Contents (Elt F) → (⟨S32x131072, .f32⟩ : BufTy).Contents (Elt F) → (⟨S32x131072, .f32⟩ : BufTy).Contents (Elt F)),
    StableHlo.unary main_v1044 main_v1045 ((transpose S131072x32 [1, 0] · transposes_S32x131072_S131072x32_1_0) : (⟨S32x131072, .f32⟩ : BufTy).Contents (Elt F) → (⟨S131072x32, .f32⟩ : BufTy).Contents (Elt F)),
    StableHlo.binary main_v916 main_v1045 main_v1046 (mulf : (⟨S131072x32, .f32⟩ : BufTy).Contents (Elt F) → (⟨S131072x32, .f32⟩ : BufTy).Contents (Elt F) → (⟨S131072x32, .f32⟩ : BufTy).Contents (Elt F)),
    StableHlo.nullary main_c_328 (constantI S_ 32 0#32),
    StableHlo.unary main_c_328 main_v1047 (broadcastInDim S2 ![] bcast_S_S2 : (⟨S_, .i32⟩ : BufTy).Contents (Elt F) → (⟨S2, .i32⟩ : BufTy).Contents (Elt F)),
    StableHlo.binary main_c_7 main_v1047 main_v1048 (cmpi .slt : (⟨S2, .i32⟩ : BufTy).Contents (Elt F) → (⟨S2, .i32⟩ : BufTy).Contents (Elt F) → (⟨S2, .i1⟩ : BufTy).Contents (Elt F)) ]
theorem w22_eq (c : Dev nD) : main_part22 (F := F) c = seq w22 := rfl
theorem w22_sub : (w22 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub ..⟩
theorem w22_fresh : (w22 : List (HloOp τ sig (Elt F))).Forall fun op => op.fresh = ∅ := by
  simp only [List.Forall]; repeat' constructor
set_option maxHeartbeats 4000000 in
theorem w22_chain : Chain 1508 (w22 : List (HloOp τ sig (Elt F))) :=
  Chain.cons (stepAt_binary 1508 _ _ _ _ rfl (by decide) (by decide)) <|
  Chain.cons (stepAt_nullary 1509 _ _ rfl) <|
  Chain.cons (stepAt_unary 1510 _ _ _ rfl (by decide)) <|
  Chain.cons (stepAt_binary 1511 _ _ _ _ rfl (by decide) (by decide)) <|
  Chain.cons (stepAt_ternary 1512 _ _ _ _ _ rfl (by decide) (by decide) (by decide)) <|
  Chain.cons (stepAt_nullary 1513 _ _ rfl) <|
  Chain.cons (stepAt_unary 1514 _ _ _ rfl (by decide)) <|
  Chain.cons (stepAt_binary 1515 _ _ _ _ rfl (by decide) (by decide)) <|
  Chain.cons (stepAt_nullary 1516 _ _ rfl) <|
  Chain.cons (stepAt_unary 1517 _ _ _ rfl (by decide)) <|
  Chain.cons (stepAt_binary 1518 _ _ _ _ rfl (by decide) (by decide)) <|
  Chain.cons (stepAt_ternary 1519 _ _ _ _ _ rfl (by decide) (by decide) (by decide)) <|
  Chain.cons (stepAt_unary 1520 _ _ _ rfl (by decide)) <|
  Chain.cons (stepAt_unary 1521 _ _ _ rfl (by decide)) <|
  Chain.cons (stepAt_binary 1522 _ _ _ _ rfl (by decide) (by decide)) <|
  Chain.cons (stepAt_binary 1523 _ _ _ _ rfl (by decide) (by decide)) <|
  Chain.cons (stepAt_nullary 1524 _ _ rfl) <|
  Chain.cons (stepAt_unary 1525 _ _ _ rfl (by decide)) <|
  Chain.cons (stepAt_binary 1526 _ _ _ _ rfl (by decide) (by decide)) <|
  Chain.cons (stepAt_unary 1527 _ _ _ rfl (by decide)) <|
  Chain.cons (stepAt_unary 1528 _ _ _ rfl (by decide)) <|
  Chain.cons (stepAt_binary 1529 _ _ _ _ rfl (by decide) (by decide)) <|
  Chain.cons (stepAt_nullary 1530 _ _ rfl) <|
  Chain.cons (stepAt_unary 1531 _ _ _ rfl (by decide)) <|
  Chain.cons (stepAt_binary 1532 _ _ _ _ rfl (by decide) (by decide)) <|
  Chain.cons (stepAt_unary 1533 _ _ _ rfl (by decide)) <|
  Chain.cons (stepAt_unary 1534 _ _ _ rfl (by decide)) <|
  Chain.cons (stepAt_binary 1535 _ _ _ _ rfl (by decide) (by decide)) <|
  Chain.cons (stepAt_unary 1536 _ _ _ rfl (by decide)) <|
  Chain.cons (stepAt_unary 1537 _ _ _ rfl (by decide)) <|
  Chain.cons (stepAt_binary 1538 _ _ _ _ rfl (by decide) (by decide)) <|
  Chain.cons (stepAt_nullary 1539 _ _ rfl) <|
  Chain.cons (stepAt_unary 1540 _ _ _ rfl (by decide)) <|
  Chain.cons (stepAt_binary 1541 _ _ _ _ rfl (by decide) (by decide)) <|
  Chain.cons (stepAt_unary 1542 _ _ _ rfl (by decide)) <|
  Chain.cons (stepAt_unary 1543 _ _ _ rfl (by decide)) <|
  Chain.cons (stepAt_binary 1544 _ _ _ _ rfl (by decide) (by decide)) <|
  Chain.cons (stepAt_binary 1545 _ _ _ _ rfl (by decide) (by decide)) <|
  Chain.cons (stepAt_nullary 1546 _ _ rfl) <|
  Chain.cons (stepAt_unary 1547 _ _ _ rfl (by decide)) <|
  Chain.cons (stepAt_binary 1548 _ _ _ _ rfl (by decide) (by decide)) <|
  Chain.cons (stepAt_unary 1549 _ _ _ rfl (by decide)) <|
  Chain.cons (stepAt_unary 1550 _ _ _ rfl (by decide)) <|
  Chain.cons (stepAt_binary 1551 _ _ _ _ rfl (by decide) (by decide)) <|
  Chain.cons (stepAt_unary 1552 _ _ _ rfl (by decide)) <|
  Chain.cons (stepAt_unary 1553 _ _ _ rfl (by decide)) <|
  Chain.cons (stepAt_binary 1554 _ _ _ _ rfl (by decide) (by decide)) <|
  Chain.cons (stepAt_binary 1555 _ _ _ _ rfl (by decide) (by decide)) <|
  Chain.cons (stepAt_unary 1556 _ _ _ rfl (by decide)) <|
  Chain.cons (stepAt_unary 1557 _ _ _ rfl (by decide)) <|
  Chain.cons (stepAt_binary 1558 _ _ _ _ rfl (by decide) (by decide)) <|
  Chain.cons (stepAt_unary 1559 _ _ _ rfl (by decide)) <|
  Chain.cons (stepAt_unary 1560 _ _ _ rfl (by decide)) <|
  Chain.cons (stepAt_binary 1561 _ _ _ _ rfl (by decide) (by decide)) <|
  Chain.cons (stepAt_binary 1562 _ _ _ _ rfl (by decide) (by decide)) <|
  Chain.cons (stepAt_unary 1563 _ _ _ rfl (by decide)) <|
  Chain.cons (stepAt_binary 1564 _ _ _ _ rfl (by decide) (by decide)) <|
  Chain.cons (stepAt_nullary 1565 _ _ rfl) <|
  Chain.cons (stepAt_unary 1566 _ _ _ rfl (by decide)) <|
  Chain.cons (stepAt_binary 1567 _ _ _ _ rfl (by decide) (by decide)) <|
  Chain.nil
theorem w22_length : (w22 : List (HloOp τ sig (Elt F))).length = 60 := rfl

/-- Window 23 of @main: 80 operations, writing buffers 1568 … 1647. -/
abbrev w23 : List (HloOp τ sig (Elt F)) :=
  [ StableHlo.nullary main_c_329 (constantI S_ 32 4#32),
    StableHlo.unary main_c_329 main_v1049 (broadcastInDim S2 ![] bcast_S_S2 : (⟨S_, .i32⟩ : BufTy).Contents (Elt F) → (⟨S2, .i32⟩ : BufTy).Contents (Elt F)),
    StableHlo.binary main_c_7 main_v1049 main_v1050 (addi : (⟨S2, .i32⟩ : BufTy).Contents (Elt F) → (⟨S2, .i32⟩ : BufTy).Contents (Elt F) → (⟨S2, .i32⟩ : BufTy).Contents (Elt F)),
    StableHlo.ternary main_v1048 main_v1050 main_c_7 main_v1051 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1051 main_v1052 (broadcastInDim S2x1 ![0] bcast_S2_S2x1_0 : (⟨S2, .i32⟩ : BufTy).Contents (Elt F) → (⟨S2x1, .i32⟩ : BufTy).Contents (Elt F)),
    StableHlo.binary main_v8 main_v1052 main_v1053 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1053 main_v1054 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1054 main_v1055 rfl shapeCasts_S131072x1_S131072,
    StableHlo.nullary main_cst_330 (constant S_ .f32 0x3F800000#32),
    StableHlo.unary main_cst_330 main_v1056 (broadcastInDim S131072 ![] bcast_S_S131072 : (⟨S_, .f32⟩ : BufTy).Contents (Elt F) → (⟨S131072, .f32⟩ : BufTy).Contents (Elt F)),
    StableHlo.binary main_v1055 main_v1056 main_v1057 (addf : (⟨S131072, .f32⟩ : BufTy).Contents (Elt F) → (⟨S131072, .f32⟩ : BufTy).Contents (Elt F) → (⟨S131072, .f32⟩ : BufTy).Contents (Elt F)),
    StableHlo.nullary main_cst_331 (constant S_ .f32 0x3F000000#32),
    StableHlo.unary main_cst_331 main_v1058 (broadcastInDim S131072 ![] bcast_S_S131072 : (⟨S_, .f32⟩ : BufTy).Contents (Elt F) → (⟨S131072, .f32⟩ : BufTy).Contents (Elt F)),
    StableHlo.binary main_v1057 main_v1058 main_v1059 (mulf : (⟨S131072, .f32⟩ : BufTy).Contents (Elt F) → (⟨S131072, .f32⟩ : BufTy).Contents (Elt F) → (⟨S131072, .f32⟩ : BufTy).Contents (Elt F)),
    StableHlo.nullary main_cst_332 (constant S_ .f32 0x42FE0000#32),
    StableHlo.unary main_cst_332 main_v1060 (broadcastInDim S131072 ![] bcast_S_S131072 : (⟨S_, .f32⟩ : BufTy).Contents (Elt F) → (⟨S131072, .f32⟩ : BufTy).Contents (Elt F)),
    StableHlo.binary main_v1059 main_v1060 main_v1061 (mulf : (⟨S131072, .f32⟩ : BufTy).Contents (Elt F) → (⟨S131072, .f32⟩ : BufTy).Contents (Elt F) → (⟨S131072, .f32⟩ : BufTy).Contents (Elt F)),
    StableHlo.unary main_v1053 main_v1062 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1062 main_v1063 rfl shapeCasts_S131072x1_S131072,
    StableHlo.nullary main_cst_333 (constant S_ .f32 0x3F800000#32),
    StableHlo.unary main_cst_333 main_v1064 (broadcastInDim S131072 ![] bcast_S_S131072 : (⟨S_, .f32⟩ : BufTy).Contents (Elt F) → (⟨S131072, .f32⟩ : BufTy).Contents (Elt F)),
    StableHlo.binary main_v1063 main_v1064 main_v1065 (addf : (⟨S131072, .f32⟩ : BufTy).Contents (Elt F) → (⟨S131072, .f32⟩ : BufTy).Contents (Elt F) → (⟨S131072, .f32⟩ : BufTy).Contents (Elt F)),
    StableHlo.nullary main_cst_334 (constant S_ .f32 0x3F000000#32),
    StableHlo.unary main_cst_334 main_v1066 (broadcastInDim S131072 ![] bcast_S_S131072 : (⟨S_, .f32⟩ : BufTy).Contents (Elt F) → (⟨S131072, .f32⟩ : BufTy).Contents (Elt F)),
    StableHlo.binary main_v1065 main_v1066 main_v1067 (mulf : (⟨S131072, .f32⟩ : BufTy).Contents (Elt F) → (⟨S131072, .f32⟩ : BufTy).Contents (Elt F) → (⟨S131072, .f32⟩ : BufTy).Contents (Elt F)),
    StableHlo.nullary main_cst_335 (constant S_ .f32 0x43150000#32),
    StableHlo.unary main_cst_335 main_v1068 (broadcastInDim S131072 ![] bcast_S_S131072 : (⟨S_, .f32⟩ : BufTy).Contents (Elt F) → (⟨S131072, .f32⟩ : BufTy).Contents (Elt F)),
    StableHlo.binary main_v1067 main_v1068 main_v1069 (mulf : (⟨S131072, .f32⟩ : BufTy).Contents (Elt F) → (⟨S131072, .f32⟩ : BufTy).Contents (Elt F) → (⟨S131072, .f32⟩ : BufTy).Contents (Elt F)),
    StableHlo.unary main_v1061 main_v1070 (Host.floor : (⟨S131072, .f32⟩ : BufTy).Contents (Elt F) → (⟨S131072, .f32⟩ : BufTy).Contents (Elt F)),
    StableHlo.unary main_v1069 main_v1071 (Host.floor : (⟨S131072, .f32⟩ : BufTy).Contents (Elt F) → (⟨S131072, .f32⟩ : BufTy).Contents (Elt F)),
    StableHlo.binary main_v1061 main_v1070 main_v1072 (subf : (⟨S131072, .f32⟩ : BufTy).Contents (Elt F) → (⟨S131072, .f32⟩ : BufTy).Contents (Elt F) → (⟨S131072, .f32⟩ : BufTy).Contents (Elt F)),
    StableHlo.binary main_v1069 main_v1071 main_v1073 (subf : (⟨S131072, .f32⟩ : BufTy).Contents (Elt F) → (⟨S131072, .f32⟩ : BufTy).Contents (Elt F) → (⟨S131072, .f32⟩ : BufTy).Contents (Elt F)),
    StableHlo.unary main_v1070 main_v1074 (fptosi 32 : (⟨S131072, .f32⟩ : BufTy).Contents (Elt F) → (⟨S131072, .i32⟩ : BufTy).Contents (Elt F)),
    StableHlo.nullary main_c_336 (constantI S_ 32 0#32),
    StableHlo.nullary main_c_337 (constantI S_ 32 127#32),
    StableHlo.TRef.unary (.of main_c_336) main_call32.v0 id,
    StableHlo.TRef.unary main_call32.v0 main_call32.v1 (broadcastInDim S131072 ![] bcast_S_S131072),
    StableHlo.TRef.binary main_call32.v1 (.of main_v1074) main_call32.v2 maxsi,
    StableHlo.TRef.unary (.of main_c_337) main_call32.v3 id,
    StableHlo.TRef.unary main_call32.v3 main_call32.v4 (broadcastInDim S131072 ![] bcast_S_S131072),
    StableHlo.TRef.binary main_call32.v4 main_call32.v2 main_call32.v5 minsi,
    StableHlo.nullary main_c_338 (constantI S_ 32 1#32),
    StableHlo.unary main_c_338 main_v1076 (broadcastInDim S131072 ![] bcast_S_S131072 : (⟨S_, .i32⟩ : BufTy).Contents (Elt F) → (⟨S131072, .i32⟩ : BufTy).Contents (Elt F)),
    StableHlo.binary main_v1075 main_v1076 main_v1077 (addi : (⟨S131072, .i32⟩ : BufTy).Contents (Elt F) → (⟨S131072, .i32⟩ : BufTy).Contents (Elt F) → (⟨S131072, .i32⟩ : BufTy).Contents (Elt F)),
    StableHlo.nullary main_c_339 (constantI S_ 32 0#32),
    StableHlo.nullary main_c_340 (constantI S_ 32 127#32),
    StableHlo.TRef.unary (.of main_c_339) main_call33.v0 id,
    StableHlo.TRef.unary main_call33.v0 main_call33.v1 (broadcastInDim S131072 ![] bcast_S_S131072),
    StableHlo.TRef.binary main_call33.v1 (.of main_v1077) main_call33.v2 maxsi,
    StableHlo.TRef.unary (.of main_c_340) main_call33.v3 id,
    StableHlo.TRef.unary main_call33.v3 main_call33.v4 (broadcastInDim S131072 ![] bcast_S_S131072),
    StableHlo.TRef.binary main_call33.v4 main_call33.v2 main_call33.v5 minsi,
    StableHlo.unary main_v1071 main_v1079 (fptosi 32 : (⟨S131072, .f32⟩ : BufTy).Contents (Elt F) → (⟨S131072, .i32⟩ : BufTy).Contents (Elt F)),
    StableHlo.nullary main_c_341 (constantI S_ 32 0#32),
    StableHlo.nullary main_c_342 (constantI S_ 32 149#32),
    StableHlo.TRef.unary (.of main_c_341) main_call34.v0 id,
    StableHlo.TRef.unary main_call34.v0 main_call34.v1 (broadcastInDim S131072 ![] bcast_S_S131072),
    StableHlo.TRef.binary main_call34.v1 (.of main_v1079) main_call34.v2 maxsi,
    StableHlo.TRef.unary (.of main_c_342) main_call34.v3 id,
    StableHlo.TRef.unary main_call34.v3 main_call34.v4 (broadcastInDim S131072 ![] bcast_S_S131072),
    StableHlo.TRef.binary main_call34.v4 main_call34.v2 main_call34.v5 minsi,
    StableHlo.nullary main_c_343 (constantI S_ 32 1#32),
    StableHlo.unary main_c_343 main_v1081 (broadcastInDim S131072 ![] bcast_S_S131072 : (⟨S_, .i32⟩ : BufTy).Contents (Elt F) → (⟨S131072, .i32⟩ : BufTy).Contents (Elt F)),
    StableHlo.binary main_v1080 main_v1081 main_v1082 (addi : (⟨S131072, .i32⟩ : BufTy).Contents (Elt F) → (⟨S131072, .i32⟩ : BufTy).Contents (Elt F) → (⟨S131072, .i32⟩ : BufTy).Contents (Elt F)),
    StableHlo.nullary main_c_344 (constantI S_ 32 0#32),
    StableHlo.nullary main_c_345 (constantI S_ 32 149#32),
    StableHlo.TRef.unary (.of main_c_344) main_call35.v0 id,
    StableHlo.TRef.unary main_call35.v0 main_call35.v1 (broadcastInDim S131072 ![] bcast_S_S131072),
    StableHlo.TRef.binary main_call35.v1 (.of main_v1082) main_call35.v2 maxsi,
    StableHlo.TRef.unary (.of main_c_345) main_call35.v3 id,
    StableHlo.TRef.unary main_call35.v3 main_call35.v4 (broadcastInDim S131072 ![] bcast_S_S131072),
    StableHlo.TRef.binary main_call35.v4 main_call35.v2 main_call35.v5 minsi,
    StableHlo.nullary main_c_346 (constantI S_ 32 0#32),
    StableHlo.unary main_c_346 main_v1084 (broadcastInDim S131072 ![] bcast_S_S131072 : (⟨S_, .i32⟩ : BufTy).Contents (Elt F) → (⟨S131072, .i32⟩ : BufTy).Contents (Elt F)),
    StableHlo.binary main_v1080 main_v1084 main_v1085 (cmpi .slt : (⟨S131072, .i32⟩ : BufTy).Contents (Elt F) → (⟨S131072, .i32⟩ : BufTy).Contents (Elt F) → (⟨S131072, .i1⟩ : BufTy).Contents (Elt F)),
    StableHlo.nullary main_c_347 (constantI S_ 32 150#32),
    StableHlo.unary main_c_347 main_v1086 (broadcastInDim S131072 ![] bcast_S_S131072 : (⟨S_, .i32⟩ : BufTy).Contents (Elt F) → (⟨S131072, .i32⟩ : BufTy).Contents (Elt F)),
    StableHlo.binary main_v1080 main_v1086 main_v1087 (addi : (⟨S131072, .i32⟩ : BufTy).Contents (Elt F) → (⟨S131072, .i32⟩ : BufTy).Contents (Elt F) → (⟨S131072, .i32⟩ : BufTy).Contents (Elt F)),
    StableHlo.ternary main_v1085 main_v1087 main_v1080 main_v1088 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_348 (constantI S_ 32 0#32) ]
theorem w23_eq (c : Dev nD) : main_part23 (F := F) c = seq w23 := rfl
theorem w23_sub : (w23 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩
theorem w23_fresh : (w23 : List (HloOp τ sig (Elt F))).Forall fun op => op.fresh = ∅ := by
  simp only [List.Forall]; repeat' constructor
set_option maxHeartbeats 4000000 in
theorem w23_chain : Chain 1568 (w23 : List (HloOp τ sig (Elt F))) :=
  Chain.cons (stepAt_nullary 1568 _ _ rfl) <|
  Chain.cons (stepAt_unary 1569 _ _ _ rfl (by decide)) <|
  Chain.cons (stepAt_binary 1570 _ _ _ _ rfl (by decide) (by decide)) <|
  Chain.cons (stepAt_ternary 1571 _ _ _ _ _ rfl (by decide) (by decide) (by decide)) <|
  Chain.cons (stepAt_unary 1572 _ _ _ rfl (by decide)) <|
  Chain.cons (stepAt_binary 1573 _ _ _ _ rfl (by decide) (by decide)) <|
  Chain.cons (stepAt_unary 1574 _ _ _ rfl (by decide)) <|
  Chain.cons (stepAt_reshape 1575 _ _ _ _ rfl (by decide)) <|
  Chain.cons (stepAt_nullary 1576 _ _ rfl) <|
  Chain.cons (stepAt_unary 1577 _ _ _ rfl (by decide)) <|
  Chain.cons (stepAt_binary 1578 _ _ _ _ rfl (by decide) (by decide)) <|
  Chain.cons (stepAt_nullary 1579 _ _ rfl) <|
  Chain.cons (stepAt_unary 1580 _ _ _ rfl (by decide)) <|
  Chain.cons (stepAt_binary 1581 _ _ _ _ rfl (by decide) (by decide)) <|
  Chain.cons (stepAt_nullary 1582 _ _ rfl) <|
  Chain.cons (stepAt_unary 1583 _ _ _ rfl (by decide)) <|
  Chain.cons (stepAt_binary 1584 _ _ _ _ rfl (by decide) (by decide)) <|
  Chain.cons (stepAt_unary 1585 _ _ _ rfl (by decide)) <|
  Chain.cons (stepAt_reshape 1586 _ _ _ _ rfl (by decide)) <|
  Chain.cons (stepAt_nullary 1587 _ _ rfl) <|
  Chain.cons (stepAt_unary 1588 _ _ _ rfl (by decide)) <|
  Chain.cons (stepAt_binary 1589 _ _ _ _ rfl (by decide) (by decide)) <|
  Chain.cons (stepAt_nullary 1590 _ _ rfl) <|
  Chain.cons (stepAt_unary 1591 _ _ _ rfl (by decide)) <|
  Chain.cons (stepAt_binary 1592 _ _ _ _ rfl (by decide) (by decide)) <|
  Chain.cons (stepAt_nullary 1593 _ _ rfl) <|
  Chain.cons (stepAt_unary 1594 _ _ _ rfl (by decide)) <|
  Chain.cons (stepAt_binary 1595 _ _ _ _ rfl (by decide) (by decide)) <|
  Chain.cons (stepAt_unary 1596 _ _ _ rfl (by decide)) <|
  Chain.cons (stepAt_unary 1597 _ _ _ rfl (by decide)) <|
  Chain.cons (stepAt_binary 1598 _ _ _ _ rfl (by decide) (by decide)) <|
  Chain.cons (stepAt_binary 1599 _ _ _ _ rfl (by decide) (by decide)) <|
  Chain.cons (stepAt_unary 1600 _ _ _ rfl (by decide)) <|
  Chain.cons (stepAt_nullary 1601 _ _ rfl) <|
  Chain.cons (stepAt_nullary 1602 _ _ rfl) <|
  Chain.cons (stepAt_unary 1603 _ _ _ rfl (by decide)) <|
  Chain.cons (stepAt_unary 1604 _ _ _ rfl (by decide)) <|
  Chain.cons (stepAt_binary 1605 _ _ _ _ rfl (by decide) (by decide)) <|
  Chain.cons (stepAt_unary 1606 _ _ _ rfl (by decide)) <|
  Chain.cons (stepAt_unary 1607 _ _ _ rfl (by decide)) <|
  Chain.cons (stepAt_binary 1608 _ _ _ _ rfl (by decide) (by decide)) <|
  Chain.cons (stepAt_nullary 1609 _ _ rfl) <|
  Chain.cons (stepAt_unary 1610 _ _ _ rfl (by decide)) <|
  Chain.cons (stepAt_binary 1611 _ _ _ _ rfl (by decide) (by decide)) <|
  Chain.cons (stepAt_nullary 1612 _ _ rfl) <|
  Chain.cons (stepAt_nullary 1613 _ _ rfl) <|
  Chain.cons (stepAt_unary 1614 _ _ _ rfl (by decide)) <|
  Chain.cons (stepAt_unary 1615 _ _ _ rfl (by decide)) <|
  Chain.cons (stepAt_binary 1616 _ _ _ _ rfl (by decide) (by decide)) <|
  Chain.cons (stepAt_unary 1617 _ _ _ rfl (by decide)) <|
  Chain.cons (stepAt_unary 1618 _ _ _ rfl (by decide)) <|
  Chain.cons (stepAt_binary 1619 _ _ _ _ rfl (by decide) (by decide)) <|
  Chain.cons (stepAt_unary 1620 _ _ _ rfl (by decide)) <|
  Chain.cons (stepAt_nullary 1621 _ _ rfl) <|
  Chain.cons (stepAt_nullary 1622 _ _ rfl) <|
  Chain.cons (stepAt_unary 1623 _ _ _ rfl (by decide)) <|
  Chain.cons (stepAt_unary 1624 _ _ _ rfl (by decide)) <|
  Chain.cons (stepAt_binary 1625 _ _ _ _ rfl (by decide) (by decide)) <|
  Chain.cons (stepAt_unary 1626 _ _ _ rfl (by decide)) <|
  Chain.cons (stepAt_unary 1627 _ _ _ rfl (by decide)) <|
  Chain.cons (stepAt_binary 1628 _ _ _ _ rfl (by decide) (by decide)) <|
  Chain.cons (stepAt_nullary 1629 _ _ rfl) <|
  Chain.cons (stepAt_unary 1630 _ _ _ rfl (by decide)) <|
  Chain.cons (stepAt_binary 1631 _ _ _ _ rfl (by decide) (by decide)) <|
  Chain.cons (stepAt_nullary 1632 _ _ rfl) <|
  Chain.cons (stepAt_nullary 1633 _ _ rfl) <|
  Chain.cons (stepAt_unary 1634 _ _ _ rfl (by decide)) <|
  Chain.cons (stepAt_unary 1635 _ _ _ rfl (by decide)) <|
  Chain.cons (stepAt_binary 1636 _ _ _ _ rfl (by decide) (by decide)) <|
  Chain.cons (stepAt_unary 1637 _ _ _ rfl (by decide)) <|
  Chain.cons (stepAt_unary 1638 _ _ _ rfl (by decide)) <|
  Chain.cons (stepAt_binary 1639 _ _ _ _ rfl (by decide) (by decide)) <|
  Chain.cons (stepAt_nullary 1640 _ _ rfl) <|
  Chain.cons (stepAt_unary 1641 _ _ _ rfl (by decide)) <|
  Chain.cons (stepAt_binary 1642 _ _ _ _ rfl (by decide) (by decide)) <|
  Chain.cons (stepAt_nullary 1643 _ _ rfl) <|
  Chain.cons (stepAt_unary 1644 _ _ _ rfl (by decide)) <|
  Chain.cons (stepAt_binary 1645 _ _ _ _ rfl (by decide) (by decide)) <|
  Chain.cons (stepAt_ternary 1646 _ _ _ _ _ rfl (by decide) (by decide) (by decide)) <|
  Chain.cons (stepAt_nullary 1647 _ _ rfl) <|
  Chain.nil
theorem w23_length : (w23 : List (HloOp τ sig (Elt F))).length = 80 := rfl

end Cert.ReferenceIdeal.Ops

end
-- ==== Proof.SimB5.lean ====
/- Operations 970 … 1156 of the one program and 974 … 1160 of the other apply the same functions to corresponding
   buffers. If both programs' final contents satisfy their own lines' equations and agree on the buffers these operations
   read from outside, they agree on what these operations write: one congruence per operation, in program order. -/
import proofs.«133805_j10187662426200_2_alg».proof.Proof.KIStretch1
import proofs.«133805_j10187662426200_2_alg».proof.Proof.RefOps1
import proofs.«133805_j10187662426200_2_alg».proof.Proof.RefOps2
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B5 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_40 : List (HloOp Cert.KernelIdeal.τ Cert.KernelIdeal.sig (Elt F))).Forall fun op => ∀ b ∈ op.writes, Φ₁ b = op.result Φ₁ b)
    (fa1 : (Cert.KernelIdeal.Gen.hostOps0_41 : List (HloOp Cert.KernelIdeal.τ Cert.KernelIdeal.sig (Elt F))).Forall fun op => ∀ b ∈ op.writes, Φ₁ b = op.result Φ₁ b)
    (fa2 : (Cert.KernelIdeal.Gen.hostOps0_42 : List (HloOp Cert.KernelIdeal.τ Cert.KernelIdeal.sig (Elt F))).Forall fun op => ∀ b ∈ op.writes, Φ₁ b = op.result Φ₁ b)
    (fa3 : (Cert.KernelIdeal.Gen.hostOps0_43 : List (HloOp Cert.KernelIdeal.τ Cert.KernelIdeal.sig (Elt F))).Forall fun op => ∀ b ∈ op.writes, Φ₁ b = op.result Φ₁ b)
    (fa4 : (Cert.KernelIdeal.Gen.hostOps0_44 : List (HloOp Cert.KernelIdeal.τ Cert.KernelIdeal.sig (Elt F))).Forall fun op => ∀ b ∈ op.writes, Φ₁ b = op.result Φ₁ b)
    (fa5 : (Cert.KernelIdeal.Gen.hostOps0_45 : List (HloOp Cert.KernelIdeal.τ Cert.KernelIdeal.sig (Elt F))).Forall fun op => ∀ b ∈ op.writes, Φ₁ b = op.result Φ₁ b)
    (fa6 : (Cert.KernelIdeal.Gen.hostOps0_46 : List (HloOp Cert.KernelIdeal.τ Cert.KernelIdeal.sig (Elt F))).Forall fun op => ∀ b ∈ op.writes, Φ₁ b = op.result Φ₁ b)
    (fa7 : (Cert.KernelIdeal.Gen.hostOps0_47 : List (HloOp Cert.KernelIdeal.τ Cert.KernelIdeal.sig (Elt F))).Forall fun op => ∀ b ∈ op.writes, Φ₁ b = op.result Φ₁ b)
    (fa8 : (Cert.KernelIdeal.Gen.hostOps0_48 : List (HloOp Cert.KernelIdeal.τ Cert.KernelIdeal.sig (Elt F))).Forall fun op => ∀ b ∈ op.writes, Φ₁ b = op.result Φ₁ b)
    (fb0 : (Cert.ReferenceIdeal.Ops.w14 : List (HloOp Cert.ReferenceIdeal.τ Cert.ReferenceIdeal.sig (Elt F))).Forall fun op => ∀ b ∈ op.writes, Φ₂ b = op.result Φ₂ b)
    (fb1 : (Cert.ReferenceIdeal.Ops.w15 : List (HloOp Cert.ReferenceIdeal.τ Cert.ReferenceIdeal.sig (Elt F))).Forall fun op => ∀ b ∈ op.writes, Φ₂ b = op.result Φ₂ b)
    (fb2 : (Cert.ReferenceIdeal.Ops.w16 : List (HloOp Cert.ReferenceIdeal.τ Cert.ReferenceIdeal.sig (Elt F))).Forall fun op => ∀ b ∈ op.writes, Φ₂ b = op.result Φ₂ b)
    (fb3 : (Cert.ReferenceIdeal.Ops.w17 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_4)) (Φ₂ (Proc.devRef .tc Cert.ReferenceIdeal.main_c_4)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x64, .f32⟩ : BufTy).Contents (Elt F)) (Φ₁ (Proc.devRef .tc Cert.KernelIdeal.main_arg7)) (Φ₂ (Proc.devRef .tc Cert.ReferenceIdeal.main_arg7)))
    : @Eq ((⟨Cert.KernelIdeal.S131072x32, .f32⟩ : BufTy).Contents (Elt F)) (Φ₁ (Proc.devRef .tc Cert.KernelIdeal.main_v782)) (Φ₂ (Proc.devRef .tc Cert.ReferenceIdeal.main_v786)) := by
  have e0 : @Eq ((⟨Cert.KernelIdeal.S_, .i32⟩ : BufTy).Contents (Elt F)) (Φ₁ (Proc.devRef .tc Cert.KernelIdeal.main_c_214)) (Φ₂ (Proc.devRef .tc Cert.ReferenceIdeal.main_c_214)) := step0 (β := ((⟨Cert.KernelIdeal.S_, .i32⟩ : BufTy).Contents (Elt F))) (eq0 (at_ fa0 (i := 112) rfl) :) (eq0 (at_ fb0 (i := 34) rfl) :)
  have e1 : @Eq ((⟨Cert.KernelIdeal.S2, .i32⟩ : BufTy).Contents (Elt F)) (Φ₁ (Proc.devRef .tc Cert.KernelIdeal.main_v654)) (Φ₂ (Proc.devRef .tc Cert.ReferenceIdeal.main_v658)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 35) rfl) :) e0
  have e2 : @Eq ((⟨Cert.KernelIdeal.S2, .i1⟩ : BufTy).Contents (Elt F)) (Φ₁ (Proc.devRef .tc Cert.KernelIdeal.main_v655)) (Φ₂ (Proc.devRef .tc Cert.ReferenceIdeal.main_v659)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 36) rfl) :) x0 e1
  have e3 : @Eq ((⟨Cert.KernelIdeal.S_, .i32⟩ : BufTy).Contents (Elt F)) (Φ₁ (Proc.devRef .tc Cert.KernelIdeal.main_c_215)) (Φ₂ (Proc.devRef .tc Cert.ReferenceIdeal.main_c_215)) := step0 (β := ((⟨Cert.KernelIdeal.S_, .i32⟩ : BufTy).Contents (Elt F))) (eq0 (at_ fa0 (i := 115) rfl) :) (eq0 (at_ fb0 (i := 37) rfl) :)
  have e4 : @Eq ((⟨Cert.KernelIdeal.S2, .i32⟩ : BufTy).Contents (Elt F)) (Φ₁ (Proc.devRef .tc Cert.KernelIdeal.main_v656)) (Φ₂ (Proc.devRef .tc Cert.ReferenceIdeal.main_v660)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 38) rfl) :) e3
  have e5 : @Eq ((⟨Cert.KernelIdeal.S2, .i32⟩ : BufTy).Contents (Elt F)) (Φ₁ (Proc.devRef .tc Cert.KernelIdeal.main_v657)) (Φ₂ (Proc.devRef .tc Cert.ReferenceIdeal.main_v661)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 39) rfl) :) x0 e4
  have e6 : @Eq ((⟨Cert.KernelIdeal.S2, .i32⟩ : BufTy).Contents (Elt F)) (Φ₁ (Proc.devRef .tc Cert.KernelIdeal.main_v658)) (Φ₂ (Proc.devRef .tc Cert.ReferenceIdeal.main_v662)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 40) rfl) :) e2 e5 x0
  have e7 : @Eq ((⟨Cert.KernelIdeal.S2x1, .i32⟩ : BufTy).Contents (Elt F)) (Φ₁ (Proc.devRef .tc Cert.KernelIdeal.main_v659)) (Φ₂ (Proc.devRef .tc Cert.ReferenceIdeal.main_v663)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 41) rfl) :) e6
  have e8 : @Eq ((⟨Cert.KernelIdeal.S131072x2, .f32⟩ : BufTy).Contents (Elt F)) (Φ₁ (Proc.devRef .tc Cert.KernelIdeal.main_v660)) (Φ₂ (Proc.devRef .tc Cert.ReferenceIdeal.main_v664)) := by rw [eq2 (at_ fa0 (i := 120) rfl), eq2 (at_ fb0 (i := 42) rfl), x1, e7] <;> rfl
  have e9 : @Eq ((⟨Cert.KernelIdeal.S131072x1, .f32⟩ : BufTy).Contents (Elt F)) (Φ₁ (Proc.devRef .tc Cert.KernelIdeal.main_v661)) (Φ₂ (Proc.devRef .tc Cert.ReferenceIdeal.main_v665)) := by rw [eq1 (at_ fa0 (i := 121) rfl), eq1 (at_ fb0 (i := 43) rfl), e8] <;> rfl
  have e10 : @Eq ((⟨Cert.KernelIdeal.S131072, .f32⟩ : BufTy).Contents (Elt F)) (Φ₁ (Proc.devRef .tc Cert.KernelIdeal.main_v662)) (Φ₂ (Proc.devRef .tc Cert.ReferenceIdeal.main_v666)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 44) rfl) :) e9
  have e11 : @Eq ((⟨Cert.KernelIdeal.S_, .f32⟩ : BufTy).Contents (Elt F)) (Φ₁ (Proc.devRef .tc Cert.KernelIdeal.main_cst_216)) (Φ₂ (Proc.devRef .tc Cert.ReferenceIdeal.main_cst_216)) := step0 (β := ((⟨Cert.KernelIdeal.S_, .f32⟩ : BufTy).Contents (Elt F))) (eq0 (at_ fa0 (i := 123) rfl) :) (eq0 (at_ fb0 (i := 45) rfl) :)
  have e12 : @Eq ((⟨Cert.KernelIdeal.S131072, .f32⟩ : BufTy).Contents (Elt F)) (Φ₁ (Proc.devRef .tc Cert.KernelIdeal.main_v663)) (Φ₂ (Proc.devRef .tc Cert.ReferenceIdeal.main_v667)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 46) rfl) :) e11
  have e13 : @Eq ((⟨Cert.KernelIdeal.S131072, .f32⟩ : BufTy).Contents (Elt F)) (Φ₁ (Proc.devRef .tc Cert.KernelIdeal.main_v664)) (Φ₂ (Proc.devRef .tc Cert.ReferenceIdeal.main_v668)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 47) rfl) :) e10 e12
  have e14 : @Eq ((⟨Cert.KernelIdeal.S_, .f32⟩ : BufTy).Contents (Elt F)) (Φ₁ (Proc.devRef .tc Cert.KernelIdeal.main_cst_217)) (Φ₂ (Proc.devRef .tc Cert.ReferenceIdeal.main_cst_217)) := step0 (β := ((⟨Cert.KernelIdeal.S_, .f32⟩ : BufTy).Contents (Elt F))) (eq0 (at_ fa0 (i := 126) rfl) :) (eq0 (at_ fb0 (i := 48) rfl) :)
  have e15 : @Eq ((⟨Cert.KernelIdeal.S131072, .f32⟩ : BufTy).Contents (Elt F)) (Φ₁ (Proc.devRef .tc Cert.KernelIdeal.main_v665)) (Φ₂ (Proc.devRef .tc Cert.ReferenceIdeal.main_v669)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 49) rfl) :) e14
  have e16 : @Eq ((⟨Cert.KernelIdeal.S131072, .f32⟩ : BufTy).Contents (Elt F)) (Φ₁ (Proc.devRef .tc Cert.KernelIdeal.main_v666)) (Φ₂ (Proc.devRef .tc Cert.ReferenceIdeal.main_v670)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 50) rfl) :) e13 e15
  have e17 : @Eq ((⟨Cert.KernelIdeal.S_, .f32⟩ : BufTy).Contents (Elt F)) (Φ₁ (Proc.devRef .tc Cert.KernelIdeal.main_cst_218)) (Φ₂ (Proc.devRef .tc Cert.ReferenceIdeal.main_cst_218)) := step0 (β := ((⟨Cert.KernelIdeal.S_, .f32⟩ : BufTy).Contents (Elt F))) (eq0 (at_ fa0 (i := 129) rfl) :) (eq0 (at_ fb0 (i := 51) rfl) :)
  have e18 : @Eq ((⟨Cert.KernelIdeal.S131072, .f32⟩ : BufTy).Contents (Elt F)) (Φ₁ (Proc.devRef .tc Cert.KernelIdeal.main_v667)) (Φ₂ (Proc.devRef .tc Cert.ReferenceIdeal.main_v671)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 52) rfl) :) e17
  have e19 : @Eq ((⟨Cert.KernelIdeal.S131072, .f32⟩ : BufTy).Contents (Elt F)) (Φ₁ (Proc.devRef .tc Cert.KernelIdeal.main_v668)) (Φ₂ (Proc.devRef .tc Cert.ReferenceIdeal.main_v672)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 53) rfl) :) e16 e18
  have e20 : @Eq ((⟨Cert.KernelIdeal.S131072x1, .f32⟩ : BufTy).Contents (Elt F)) (Φ₁ (Proc.devRef .tc Cert.KernelIdeal.main_v669)) (Φ₂ (Proc.devRef .tc Cert.ReferenceIdeal.main_v673)) := by rw [eq1 (at_ fa0 (i := 132) rfl), eq1 (at_ fb0 (i := 54) rfl), e8] <;> rfl
  have e21 : @Eq ((⟨Cert.KernelIdeal.S131072, .f32⟩ : BufTy).Contents (Elt F)) (Φ₁ (Proc.devRef .tc Cert.KernelIdeal.main_v670)) (Φ₂ (Proc.devRef .tc Cert.ReferenceIdeal.main_v674)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 55) rfl) :) e20
  have e22 : @Eq ((⟨Cert.KernelIdeal.S_, .f32⟩ : BufTy).Contents (Elt F)) (Φ₁ (Proc.devRef .tc Cert.KernelIdeal.main_cst_219)) (Φ₂ (Proc.devRef .tc Cert.ReferenceIdeal.main_cst_219)) := step0 (β := ((⟨Cert.KernelIdeal.S_, .f32⟩ : BufTy).Contents (Elt F))) (eq0 (at_ fa0 (i := 134) rfl) :) (eq0 (at_ fb0 (i := 56) rfl) :)
  have e23 : @Eq ((⟨Cert.KernelIdeal.S131072, .f32⟩ : BufTy).Contents (Elt F)) (Φ₁ (Proc.devRef .tc Cert.KernelIdeal.main_v671)) (Φ₂ (Proc.devRef .tc Cert.ReferenceIdeal.main_v675)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 57) rfl) :) e22
  have e24 : @Eq ((⟨Cert.KernelIdeal.S131072, .f32⟩ : BufTy).Contents (Elt F)) (Φ₁ (Proc.devRef .tc Cert.KernelIdeal.main_v672)) (Φ₂ (Proc.devRef .tc Cert.ReferenceIdeal.main_v676)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 58) rfl) :) e21 e23
  have e25 : @Eq ((⟨Cert.KernelIdeal.S_, .f32⟩ : BufTy).Contents (Elt F)) (Φ₁ (Proc.devRef .tc Cert.KernelIdeal.main_cst_220)) (Φ₂ (Proc.devRef .tc Cert.ReferenceIdeal.main_cst_220)) := step0 (β := ((⟨Cert.KernelIdeal.S_, .f32⟩ : BufTy).Contents (Elt F))) (eq0 (at_ fa0 (i := 137) rfl) :) (eq0 (at_ fb0 (i := 59) rfl) :)
  have e26 : @Eq ((⟨Cert.KernelIdeal.S131072, .f32⟩ : BufTy).Contents (Elt F)) (Φ₁ (Proc.devRef .tc Cert.KernelIdeal.main_v673)) (Φ₂ (Proc.devRef .tc Cert.ReferenceIdeal.main_v677)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 0) rfl) :) e25
  have e27 : @Eq ((⟨Cert.KernelIdeal.S131072, .f32⟩ : BufTy).Contents (Elt F)) (Φ₁ (Proc.devRef .tc Cert.KernelIdeal.main_v674)) (Φ₂ (Proc.devRef .tc Cert.ReferenceIdeal.main_v678)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 1) rfl) :) e24 e26
  have e28 : @Eq ((⟨Cert.KernelIdeal.S_, .f32⟩ : BufTy).Contents (Elt F)) (Φ₁ (Proc.devRef .tc Cert.KernelIdeal.main_cst_221)) (Φ₂ (Proc.devRef .tc Cert.ReferenceIdeal.main_cst_221)) := step0 (β := ((⟨Cert.KernelIdeal.S_, .f32⟩ : BufTy).Contents (Elt F))) (eq0 (at_ fa0 (i := 140) rfl) :) (eq0 (at_ fb1 (i := 2) rfl) :)
  have e29 : @Eq ((⟨Cert.KernelIdeal.S131072, .f32⟩ : BufTy).Contents (Elt F)) (Φ₁ (Proc.devRef .tc Cert.KernelIdeal.main_v675)) (Φ₂ (Proc.devRef .tc Cert.ReferenceIdeal.main_v679)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 3) rfl) :) e28
  have e30 : @Eq ((⟨Cert.KernelIdeal.S131072, .f32⟩ : BufTy).Contents (Elt F)) (Φ₁ (Proc.devRef .tc Cert.KernelIdeal.main_v676)) (Φ₂ (Proc.devRef .tc Cert.ReferenceIdeal.main_v680)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 4) rfl) :) e27 e29
  have e31 : @Eq ((⟨Cert.KernelIdeal.S131072, .f32⟩ : BufTy).Contents (Elt F)) (Φ₁ (Proc.devRef .tc Cert.KernelIdeal.main_v677)) (Φ₂ (Proc.devRef .tc Cert.ReferenceIdeal.main_v681)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 5) rfl) :) e19
  have e32 : @Eq ((⟨Cert.KernelIdeal.S131072, .f32⟩ : BufTy).Contents (Elt F)) (Φ₁ (Proc.devRef .tc Cert.KernelIdeal.main_v678)) (Φ₂ (Proc.devRef .tc Cert.ReferenceIdeal.main_v682)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 6) rfl) :) e30
  have e33 : @Eq ((⟨Cert.KernelIdeal.S131072, .f32⟩ : BufTy).Contents (Elt F)) (Φ₁ (Proc.devRef .tc Cert.KernelIdeal.main_v679)) (Φ₂ (Proc.devRef .tc Cert.ReferenceIdeal.main_v683)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 7) rfl) :) e19 e31
  have e34 : @Eq ((⟨Cert.KernelIdeal.S131072, .f32⟩ : BufTy).Contents (Elt F)) (Φ₁ (Proc.devRef .tc Cert.KernelIdeal.main_v680)) (Φ₂ (Proc.devRef .tc Cert.ReferenceIdeal.main_v684)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 8) rfl) :) e30 e32
  have e35 : @Eq ((⟨Cert.KernelIdeal.S131072, .i32⟩ : BufTy).Contents (Elt F)) (Φ₁ (Proc.devRef .tc Cert.KernelIdeal.main_v681)) (Φ₂ (Proc.devRef .tc Cert.ReferenceIdeal.main_v685)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 9) rfl) :) e31
  have e36 : @Eq ((⟨Cert.KernelIdeal.S_, .i32⟩ : BufTy).Contents (Elt F)) (Φ₁ (Proc.devRef .tc Cert.KernelIdeal.main_c_222)) (Φ₂ (Proc.devRef .tc Cert.ReferenceIdeal.main_c_222)) := step0 (β := ((⟨Cert.KernelIdeal.S_, .i32⟩ : BufTy).Contents (Elt F))) (eq0 (at_ fa0 (i := 148) rfl) :) (eq0 (at_ fb1 (i := 10) rfl) :)
  have e37 : @Eq ((⟨Cert.KernelIdeal.S_, .i32⟩ : BufTy).Contents (Elt F)) (Φ₁ (Proc.devRef .tc Cert.KernelIdeal.main_c_223)) (Φ₂ (Proc.devRef .tc Cert.ReferenceIdeal.main_c_223)) := step0 (β := ((⟨Cert.KernelIdeal.S_, .i32⟩ : BufTy).Contents (Elt F))) (eq0 (at_ fa0 (i := 149) rfl) :) (eq0 (at_ fb1 (i := 11) rfl) :)
  have e38 : @Eq ((⟨Cert.KernelIdeal.S_, .i32⟩ : BufTy).Contents (Elt F)) (Φ₁ (Proc.devRef .tc Cert.KernelIdeal.main_call20_v0)) (Φ₂ (Proc.devRef .tc Cert.ReferenceIdeal.main_call20_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 12) rfl) :) e36
  have e39 : @Eq ((⟨Cert.KernelIdeal.S131072, .i32⟩ : BufTy).Contents (Elt F)) (Φ₁ (Proc.devRef .tc Cert.KernelIdeal.main_call20_v1)) (Φ₂ (Proc.devRef .tc Cert.ReferenceIdeal.main_call20_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 13) rfl) :) e38
  have e40 : @Eq ((⟨Cert.KernelIdeal.S131072, .i32⟩ : BufTy).Contents (Elt F)) (Φ₁ (Proc.devRef .tc Cert.KernelIdeal.main_call20_v2)) (Φ₂ (Proc.devRef .tc Cert.ReferenceIdeal.main_call20_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 14) rfl) :) e39 e35
  have e41 : @Eq ((⟨Cert.KernelIdeal.S_, .i32⟩ : BufTy).Contents (Elt F)) (Φ₁ (Proc.devRef .tc Cert.KernelIdeal.main_call20_v3)) (Φ₂ (Proc.devRef .tc Cert.ReferenceIdeal.main_call20_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 15) rfl) :) e37
  have e42 : @Eq ((⟨Cert.KernelIdeal.S131072, .i32⟩ : BufTy).Contents (Elt F)) (Φ₁ (Proc.devRef .tc Cert.KernelIdeal.main_call20_v4)) (Φ₂ (Proc.devRef .tc Cert.ReferenceIdeal.main_call20_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 16) rfl) :) e41
  have e43 : @Eq ((⟨Cert.KernelIdeal.S131072, .i32⟩ : BufTy).Contents (Elt F)) (Φ₁ (Proc.devRef .tc Cert.KernelIdeal.main_v682)) (Φ₂ (Proc.devRef .tc Cert.ReferenceIdeal.main_v686)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 17) rfl) :) e42 e40
  have e44 : @Eq ((⟨Cert.KernelIdeal.S_, .i32⟩ : BufTy).Contents (Elt F)) (Φ₁ (Proc.devRef .tc Cert.KernelIdeal.main_c_224)) (Φ₂ (Proc.devRef .tc Cert.ReferenceIdeal.main_c_224)) := step0 (β := ((⟨Cert.KernelIdeal.S_, .i32⟩ : BufTy).Contents (Elt F))) (eq0 (at_ fa2 (i := 0) rfl) :) (eq0 (at_ fb1 (i := 18) rfl) :)
  have e45 : @Eq ((⟨Cert.KernelIdeal.S131072, .i32⟩ : BufTy).Contents (Elt F)) (Φ₁ (Proc.devRef .tc Cert.KernelIdeal.main_v683)) (Φ₂ (Proc.devRef .tc Cert.ReferenceIdeal.main_v687)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 19) rfl) :) e44
  have e46 : @Eq ((⟨Cert.KernelIdeal.S131072, .i32⟩ : BufTy).Contents (Elt F)) (Φ₁ (Proc.devRef .tc Cert.KernelIdeal.main_v684)) (Φ₂ (Proc.devRef .tc Cert.ReferenceIdeal.main_v688)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 20) rfl) :) e43 e45
  have e47 : @Eq ((⟨Cert.KernelIdeal.S_, .i32⟩ : BufTy).Contents (Elt F)) (Φ₁ (Proc.devRef .tc Cert.KernelIdeal.main_c_225)) (Φ₂ (Proc.devRef .tc Cert.ReferenceIdeal.main_c_225)) := step0 (β := ((⟨Cert.KernelIdeal.S_, .i32⟩ : BufTy).Contents (Elt F))) (eq0 (at_ fa2 (i := 3) rfl) :) (eq0 (at_ fb1 (i := 21) rfl) :)
  have e48 : @Eq ((⟨Cert.KernelIdeal.S_, .i32⟩ : BufTy).Contents (Elt F)) (Φ₁ (Proc.devRef .tc Cert.KernelIdeal.main_c_226)) (Φ₂ (Proc.devRef .tc Cert.ReferenceIdeal.main_c_226)) := step0 (β := ((⟨Cert.KernelIdeal.S_, .i32⟩ : BufTy).Contents (Elt F))) (eq0 (at_ fa2 (i := 4) rfl) :) (eq0 (at_ fb1 (i := 22) rfl) :)
  have e49 : @Eq ((⟨Cert.KernelIdeal.S_, .i32⟩ : BufTy).Contents (Elt F)) (Φ₁ (Proc.devRef .tc Cert.KernelIdeal.main_call21_v0)) (Φ₂ (Proc.devRef .tc Cert.ReferenceIdeal.main_call21_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 23) rfl) :) e47
  have e50 : @Eq ((⟨Cert.KernelIdeal.S131072, .i32⟩ : BufTy).Contents (Elt F)) (Φ₁ (Proc.devRef .tc Cert.KernelIdeal.main_call21_v1)) (Φ₂ (Proc.devRef .tc Cert.ReferenceIdeal.main_call21_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 24) rfl) :) e49
  have e51 : @Eq ((⟨Cert.KernelIdeal.S131072, .i32⟩ : BufTy).Contents (Elt F)) (Φ₁ (Proc.devRef .tc Cert.KernelIdeal.main_call21_v2)) (Φ₂ (Proc.devRef .tc Cert.ReferenceIdeal.main_call21_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 25) rfl) :) e50 e46
  have e52 : @Eq ((⟨Cert.KernelIdeal.S_, .i32⟩ : BufTy).Contents (Elt F)) (Φ₁ (Proc.devRef .tc Cert.KernelIdeal.main_call21_v3)) (Φ₂ (Proc.devRef .tc Cert.ReferenceIdeal.main_call21_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 26) rfl) :) e48
  have e53 : @Eq ((⟨Cert.KernelIdeal.S131072, .i32⟩ : BufTy).Contents (Elt F)) (Φ₁ (Proc.devRef .tc Cert.KernelIdeal.main_call21_v4)) (Φ₂ (Proc.devRef .tc Cert.ReferenceIdeal.main_call21_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 27) rfl) :) e52
  have e54 : @Eq ((⟨Cert.KernelIdeal.S131072, .i32⟩ : BufTy).Contents (Elt F)) (Φ₁ (Proc.devRef .tc Cert.KernelIdeal.main_v685)) (Φ₂ (Proc.devRef .tc Cert.ReferenceIdeal.main_v689)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 28) rfl) :) e53 e51
  have e55 : @Eq ((⟨Cert.KernelIdeal.S131072, .i32⟩ : BufTy).Contents (Elt F)) (Φ₁ (Proc.devRef .tc Cert.KernelIdeal.main_v686)) (Φ₂ (Proc.devRef .tc Cert.ReferenceIdeal.main_v690)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 29) rfl) :) e32
  have e56 : @Eq ((⟨Cert.KernelIdeal.S_, .i32⟩ : BufTy).Contents (Elt F)) (Φ₁ (Proc.devRef .tc Cert.KernelIdeal.main_c_227)) (Φ₂ (Proc.devRef .tc Cert.ReferenceIdeal.main_c_227)) := step0 (β := ((⟨Cert.KernelIdeal.S_, .i32⟩ : BufTy).Contents (Elt F))) (eq0 (at_ fa4 (i := 1) rfl) :) (eq0 (at_ fb1 (i := 30) rfl) :)
  have e57 : @Eq ((⟨Cert.KernelIdeal.S_, .i32⟩ : BufTy).Contents (Elt F)) (Φ₁ (Proc.devRef .tc Cert.KernelIdeal.main_c_228)) (Φ₂ (Proc.devRef .tc Cert.ReferenceIdeal.main_c_228)) := step0 (β := ((⟨Cert.KernelIdeal.S_, .i32⟩ : BufTy).Contents (Elt F))) (eq0 (at_ fa4 (i := 2) rfl) :) (eq0 (at_ fb1 (i := 31) rfl) :)
  have e58 : @Eq ((⟨Cert.KernelIdeal.S_, .i32⟩ : BufTy).Contents (Elt F)) (Φ₁ (Proc.devRef .tc Cert.KernelIdeal.main_call22_v0)) (Φ₂ (Proc.devRef .tc Cert.ReferenceIdeal.main_call22_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 32) rfl) :) e56
  have e59 : @Eq ((⟨Cert.KernelIdeal.S131072, .i32⟩ : BufTy).Contents (Elt F)) (Φ₁ (Proc.devRef .tc Cert.KernelIdeal.main_call22_v1)) (Φ₂ (Proc.devRef .tc Cert.ReferenceIdeal.main_call22_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 33) rfl) :) e58
  have e60 : @Eq ((⟨Cert.KernelIdeal.S131072, .i32⟩ : BufTy).Contents (Elt F)) (Φ₁ (Proc.devRef .tc Cert.KernelIdeal.main_call22_v2)) (Φ₂ (Proc.devRef .tc Cert.ReferenceIdeal.main_call22_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 34) rfl) :) e59 e55
  have e61 : @Eq ((⟨Cert.KernelIdeal.S_, .i32⟩ : BufTy).Contents (Elt F)) (Φ₁ (Proc.devRef .tc Cert.KernelIdeal.main_call22_v3)) (Φ₂ (Proc.devRef .tc Cert.ReferenceIdeal.main_call22_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 35) rfl) :) e57
  have e62 : @Eq ((⟨Cert.KernelIdeal.S131072, .i32⟩ : BufTy).Contents (Elt F)) (Φ₁ (Proc.devRef .tc Cert.KernelIdeal.main_call22_v4)) (Φ₂ (Proc.devRef .tc Cert.ReferenceIdeal.main_call22_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 36) rfl) :) e61
  have e63 : @Eq ((⟨Cert.KernelIdeal.S131072, .i32⟩ : BufTy).Contents (Elt F)) (Φ₁ (Proc.devRef .tc Cert.KernelIdeal.main_v687)) (Φ₂ (Proc.devRef .tc Cert.ReferenceIdeal.main_v691)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 37) rfl) :) e62 e60
  have e64 : @Eq ((⟨Cert.KernelIdeal.S_, .i32⟩ : BufTy).Contents (Elt F)) (Φ₁ (Proc.devRef .tc Cert.KernelIdeal.main_c_229)) (Φ₂ (Proc.devRef .tc Cert.ReferenceIdeal.main_c_229)) := step0 (β := ((⟨Cert.KernelIdeal.S_, .i32⟩ : BufTy).Contents (Elt F))) (eq0 (at_ fa6 (i := 0) rfl) :) (eq0 (at_ fb1 (i := 38) rfl) :)
  have e65 : @Eq ((⟨Cert.KernelIdeal.S131072, .i32⟩ : BufTy).Contents (Elt F)) (Φ₁ (Proc.devRef .tc Cert.KernelIdeal.main_v688)) (Φ₂ (Proc.devRef .tc Cert.ReferenceIdeal.main_v692)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 39) rfl) :) e64
  have e66 : @Eq ((⟨Cert.KernelIdeal.S131072, .i32⟩ : BufTy).Contents (Elt F)) (Φ₁ (Proc.devRef .tc Cert.KernelIdeal.main_v689)) (Φ₂ (Proc.devRef .tc Cert.ReferenceIdeal.main_v693)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 40) rfl) :) e63 e65
  have e67 : @Eq ((⟨Cert.KernelIdeal.S_, .i32⟩ : BufTy).Contents (Elt F)) (Φ₁ (Proc.devRef .tc Cert.KernelIdeal.main_c_230)) (Φ₂ (Proc.devRef .tc Cert.ReferenceIdeal.main_c_230)) := step0 (β := ((⟨Cert.KernelIdeal.S_, .i32⟩ : BufTy).Contents (Elt F))) (eq0 (at_ fa6 (i := 3) rfl) :) (eq0 (at_ fb1 (i := 41) rfl) :)
  have e68 : @Eq ((⟨Cert.KernelIdeal.S_, .i32⟩ : BufTy).Contents (Elt F)) (Φ₁ (Proc.devRef .tc Cert.KernelIdeal.main_c_231)) (Φ₂ (Proc.devRef .tc Cert.ReferenceIdeal.main_c_231)) := step0 (β := ((⟨Cert.KernelIdeal.S_, .i32⟩ : BufTy).Contents (Elt F))) (eq0 (at_ fa6 (i := 4) rfl) :) (eq0 (at_ fb1 (i := 42) rfl) :)
  have e69 : @Eq ((⟨Cert.KernelIdeal.S_, .i32⟩ : BufTy).Contents (Elt F)) (Φ₁ (Proc.devRef .tc Cert.KernelIdeal.main_call23_v0)) (Φ₂ (Proc.devRef .tc Cert.ReferenceIdeal.main_call23_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 43) rfl) :) e67
  have e70 : @Eq ((⟨Cert.KernelIdeal.S131072, .i32⟩ : BufTy).Contents (Elt F)) (Φ₁ (Proc.devRef .tc Cert.KernelIdeal.main_call23_v1)) (Φ₂ (Proc.devRef .tc Cert.ReferenceIdeal.main_call23_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 44) rfl) :) e69
  have e71 : @Eq ((⟨Cert.KernelIdeal.S131072, .i32⟩ : BufTy).Contents (Elt F)) (Φ₁ (Proc.devRef .tc Cert.KernelIdeal.main_call23_v2)) (Φ₂ (Proc.devRef .tc Cert.ReferenceIdeal.main_call23_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 45) rfl) :) e70 e66
  have e72 : @Eq ((⟨Cert.KernelIdeal.S_, .i32⟩ : BufTy).Contents (Elt F)) (Φ₁ (Proc.devRef .tc Cert.KernelIdeal.main_call23_v3)) (Φ₂ (Proc.devRef .tc Cert.ReferenceIdeal.main_call23_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 46) rfl) :) e68
  have e73 : @Eq ((⟨Cert.KernelIdeal.S131072, .i32⟩ : BufTy).Contents (Elt F)) (Φ₁ (Proc.devRef .tc Cert.KernelIdeal.main_call23_v4)) (Φ₂ (Proc.devRef .tc Cert.ReferenceIdeal.main_call23_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 47) rfl) :) e72
  have e74 : @Eq ((⟨Cert.KernelIdeal.S131072, .i32⟩ : BufTy).Contents (Elt F)) (Φ₁ (Proc.devRef .tc Cert.KernelIdeal.main_v690)) (Φ₂ (Proc.devRef .tc Cert.ReferenceIdeal.main_v694)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 48) rfl) :) e73 e71
  have e75 : @Eq ((⟨Cert.KernelIdeal.S_, .i32⟩ : BufTy).Contents (Elt F)) (Φ₁ (Proc.devRef .tc Cert.KernelIdeal.main_c_232)) (Φ₂ (Proc.devRef .tc Cert.ReferenceIdeal.main_c_232)) := step0 (β := ((⟨Cert.KernelIdeal.S_, .i32⟩ : BufTy).Contents (Elt F))) (eq0 (at_ fa8 (i := 0) rfl) :) (eq0 (at_ fb1 (i := 49) rfl) :)
  have e76 : @Eq ((⟨Cert.KernelIdeal.S131072, .i32⟩ : BufTy).Contents (Elt F)) (Φ₁ (Proc.devRef .tc Cert.KernelIdeal.main_v691)) (Φ₂ (Proc.devRef .tc Cert.ReferenceIdeal.main_v695)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 50) rfl) :) e75
  have e77 : @Eq ((⟨Cert.KernelIdeal.S131072, .i1⟩ : BufTy).Contents (Elt F)) (Φ₁ (Proc.devRef .tc Cert.KernelIdeal.main_v692)) (Φ₂ (Proc.devRef .tc Cert.ReferenceIdeal.main_v696)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 51) rfl) :) e63 e76
  have e78 : @Eq ((⟨Cert.KernelIdeal.S_, .i32⟩ : BufTy).Contents (Elt F)) (Φ₁ (Proc.devRef .tc Cert.KernelIdeal.main_c_233)) (Φ₂ (Proc.devRef .tc Cert.ReferenceIdeal.main_c_233)) := step0 (β := ((⟨Cert.KernelIdeal.S_, .i32⟩ : BufTy).Contents (Elt F))) (eq0 (at_ fa8 (i := 3) rfl) :) (eq0 (at_ fb1 (i := 52) rfl) :)
  have e79 : @Eq ((⟨Cert.KernelIdeal.S131072, .i32⟩ : BufTy).Contents (Elt F)) (Φ₁ (Proc.devRef .tc Cert.KernelIdeal.main_v693)) (Φ₂ (Proc.devRef .tc Cert.ReferenceIdeal.main_v697)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 53) rfl) :) e78
  have e80 : @Eq ((⟨Cert.KernelIdeal.S131072, .i32⟩ : BufTy).Contents (Elt F)) (Φ₁ (Proc.devRef .tc Cert.KernelIdeal.main_v694)) (Φ₂ (Proc.devRef .tc Cert.ReferenceIdeal.main_v698)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 54) rfl) :) e63 e79
  have e81 : @Eq ((⟨Cert.KernelIdeal.S131072, .i32⟩ : BufTy).Contents (Elt F)) (Φ₁ (Proc.devRef .tc Cert.KernelIdeal.main_v695)) (Φ₂ (Proc.devRef .tc Cert.ReferenceIdeal.main_v699)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 55) rfl) :) e77 e80 e63
  have e82 : @Eq ((⟨Cert.KernelIdeal.S_, .i32⟩ : BufTy).Contents (Elt F)) (Φ₁ (Proc.devRef .tc Cert.KernelIdeal.main_c_234)) (Φ₂ (Proc.devRef .tc Cert.ReferenceIdeal.main_c_234)) := step0 (β := ((⟨Cert.KernelIdeal.S_, .i32⟩ : BufTy).Contents (Elt F))) (eq0 (at_ fa8 (i := 7) rfl) :) (eq0 (at_ fb1 (i := 56) rfl) :)
  have e83 : @Eq ((⟨Cert.KernelIdeal.S131072, .i32⟩ : BufTy).Contents (Elt F)) (Φ₁ (Proc.devRef .tc Cert.KernelIdeal.main_v696)) (Φ₂ (Proc.devRef .tc Cert.ReferenceIdeal.main_v700)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 57) rfl) :) e82
  have e84 : @Eq ((⟨Cert.KernelIdeal.S131072, .i1⟩ : BufTy).Contents (Elt F)) (Φ₁ (Proc.devRef .tc Cert.KernelIdeal.main_v697)) (Φ₂ (Proc.devRef .tc Cert.ReferenceIdeal.main_v701)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 58) rfl) :) e43 e83
  have e85 : @Eq ((⟨Cert.KernelIdeal.S_, .i32⟩ : BufTy).Contents (Elt F)) (Φ₁ (Proc.devRef .tc Cert.KernelIdeal.main_c_235)) (Φ₂ (Proc.devRef .tc Cert.ReferenceIdeal.main_c_235)) := step0 (β := ((⟨Cert.KernelIdeal.S_, .i32⟩ : BufTy).Contents (Elt F))) (eq0 (at_ fa8 (i := 10) rfl) :) (eq0 (at_ fb1 (i := 59) rfl) :)
  have e86 : @Eq ((⟨Cert.KernelIdeal.S131072, .i32⟩ : BufTy).Contents (Elt F)) (Φ₁ (Proc.devRef .tc Cert.KernelIdeal.main_v698)) (Φ₂ (Proc.devRef .tc Cert.ReferenceIdeal.main_v702)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 60) rfl) :) e85
  have e87 : @Eq ((⟨Cert.KernelIdeal.S131072, .i32⟩ : BufTy).Contents (Elt F)) (Φ₁ (Proc.devRef .tc Cert.KernelIdeal.main_v699)) (Φ₂ (Proc.devRef .tc Cert.ReferenceIdeal.main_v703)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 61) rfl) :) e43 e86
  have e88 : @Eq ((⟨Cert.KernelIdeal.S131072, .i32⟩ : BufTy).Contents (Elt F)) (Φ₁ (Proc.devRef .tc Cert.KernelIdeal.main_v700)) (Φ₂ (Proc.devRef .tc Cert.ReferenceIdeal.main_v704)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 62) rfl) :) e84 e87 e43
  have e89 : @Eq ((⟨Cert.KernelIdeal.S131072x1, .i32⟩ : BufTy).Contents (Elt F)) (Φ₁ (Proc.devRef .tc Cert.KernelIdeal.main_v701)) (Φ₂ (Proc.devRef .tc Cert.ReferenceIdeal.main_v705)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 63) rfl) :) e81
  have e90 : @Eq ((⟨Cert.KernelIdeal.S131072x1, .i32⟩ : BufTy).Contents (Elt F)) (Φ₁ (Proc.devRef .tc Cert.KernelIdeal.main_v702)) (Φ₂ (Proc.devRef .tc Cert.ReferenceIdeal.main_v706)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 64) rfl) :) e88
  have e91 : @Eq ((⟨Cert.KernelIdeal.S131072x2, .i32⟩ : BufTy).Contents (Elt F)) (Φ₁ (Proc.devRef .tc Cert.KernelIdeal.main_v703)) (Φ₂ (Proc.devRef .tc Cert.ReferenceIdeal.main_v707)) := by rw [eq2 (at_ fa8 (i := 16) rfl), eq2 (at_ fb1 (i := 65) rfl), e89, e90] <;> rfl
  have e92 : @Eq ((⟨Cert.KernelIdeal.S32x131072, .f32⟩ : BufTy).Contents (Elt F)) (Φ₁ (Proc.devRef .tc Cert.KernelIdeal.main_v704)) (Φ₂ (Proc.devRef .tc Cert.ReferenceIdeal.main_v708)) := by rw [eq2 (at_ fa8 (i := 17) rfl), eq2 (at_ fb1 (i := 66) rfl), x2, e91] <;> rfl
  have e93 : @Eq ((⟨Cert.KernelIdeal.S_, .i32⟩ : BufTy).Contents (Elt F)) (Φ₁ (Proc.devRef .tc Cert.KernelIdeal.main_c_236)) (Φ₂ (Proc.devRef .tc Cert.ReferenceIdeal.main_c_236)) := step0 (β := ((⟨Cert.KernelIdeal.S_, .i32⟩ : BufTy).Contents (Elt F))) (eq0 (at_ fa8 (i := 18) rfl) :) (eq0 (at_ fb1 (i := 67) rfl) :)
  have e94 : @Eq ((⟨Cert.KernelIdeal.S131072, .i32⟩ : BufTy).Contents (Elt F)) (Φ₁ (Proc.devRef .tc Cert.KernelIdeal.main_v705)) (Φ₂ (Proc.devRef .tc Cert.ReferenceIdeal.main_v709)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 68) rfl) :) e93
  have e95 : @Eq ((⟨Cert.KernelIdeal.S131072, .i1⟩ : BufTy).Contents (Elt F)) (Φ₁ (Proc.devRef .tc Cert.KernelIdeal.main_v706)) (Φ₂ (Proc.devRef .tc Cert.ReferenceIdeal.main_v710)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 69) rfl) :) e63 e94
  have e96 : @Eq ((⟨Cert.KernelIdeal.S_, .i32⟩ : BufTy).Contents (Elt F)) (Φ₁ (Proc.devRef .tc Cert.KernelIdeal.main_c_237)) (Φ₂ (Proc.devRef .tc Cert.ReferenceIdeal.main_c_237)) := step0 (β := ((⟨Cert.KernelIdeal.S_, .i32⟩ : BufTy).Contents (Elt F))) (eq0 (at_ fa8 (i := 21) rfl) :) (eq0 (at_ fb1 (i := 70) rfl) :)
  have e97 : @Eq ((⟨Cert.KernelIdeal.S131072, .i32⟩ : BufTy).Contents (Elt F)) (Φ₁ (Proc.devRef .tc Cert.KernelIdeal.main_v707)) (Φ₂ (Proc.devRef .tc Cert.ReferenceIdeal.main_v711)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 71) rfl) :) e96
  have e98 : @Eq ((⟨Cert.KernelIdeal.S131072, .i32⟩ : BufTy).Contents (Elt F)) (Φ₁ (Proc.devRef .tc Cert.KernelIdeal.main_v708)) (Φ₂ (Proc.devRef .tc Cert.ReferenceIdeal.main_v712)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 72) rfl) :) e63 e97
  have e99 : @Eq ((⟨Cert.KernelIdeal.S131072, .i32⟩ : BufTy).Contents (Elt F)) (Φ₁ (Proc.devRef .tc Cert.KernelIdeal.main_v709)) (Φ₂ (Proc.devRef .tc Cert.ReferenceIdeal.main_v713)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 73) rfl) :) e95 e98 e63
  have e100 : @Eq ((⟨Cert.KernelIdeal.S_, .i32⟩ : BufTy).Contents (Elt F)) (Φ₁ (Proc.devRef .tc Cert.KernelIdeal.main_c_238)) (Φ₂ (Proc.devRef .tc Cert.ReferenceIdeal.main_c_238)) := step0 (β := ((⟨Cert.KernelIdeal.S_, .i32⟩ : BufTy).Contents (Elt F))) (eq0 (at_ fa8 (i := 25) rfl) :) (eq0 (at_ fb1 (i := 74) rfl) :)
  have e101 : @Eq ((⟨Cert.KernelIdeal.S131072, .i32⟩ : BufTy).Contents (Elt F)) (Φ₁ (Proc.devRef .tc Cert.KernelIdeal.main_v710)) (Φ₂ (Proc.devRef .tc Cert.ReferenceIdeal.main_v714)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 75) rfl) :) e100
  have e102 : @Eq ((⟨Cert.KernelIdeal.S131072, .i1⟩ : BufTy).Contents (Elt F)) (Φ₁ (Proc.devRef .tc Cert.KernelIdeal.main_v711)) (Φ₂ (Proc.devRef .tc Cert.ReferenceIdeal.main_v715)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 76) rfl) :) e54 e101
  have e103 : @Eq ((⟨Cert.KernelIdeal.S_, .i32⟩ : BufTy).Contents (Elt F)) (Φ₁ (Proc.devRef .tc Cert.KernelIdeal.main_c_239)) (Φ₂ (Proc.devRef .tc Cert.ReferenceIdeal.main_c_239)) := step0 (β := ((⟨Cert.KernelIdeal.S_, .i32⟩ : BufTy).Contents (Elt F))) (eq0 (at_ fa8 (i := 28) rfl) :) (eq0 (at_ fb1 (i := 77) rfl) :)
  have e104 : @Eq ((⟨Cert.KernelIdeal.S131072, .i32⟩ : BufTy).Contents (Elt F)) (Φ₁ (Proc.devRef .tc Cert.KernelIdeal.main_v712)) (Φ₂ (Proc.devRef .tc Cert.ReferenceIdeal.main_v716)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 78) rfl) :) e103
  have e105 : @Eq ((⟨Cert.KernelIdeal.S131072, .i32⟩ : BufTy).Contents (Elt F)) (Φ₁ (Proc.devRef .tc Cert.KernelIdeal.main_v713)) (Φ₂ (Proc.devRef .tc Cert.ReferenceIdeal.main_v717)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 79) rfl) :) e54 e104
  have e106 : @Eq ((⟨Cert.KernelIdeal.S131072, .i32⟩ : BufTy).Contents (Elt F)) (Φ₁ (Proc.devRef .tc Cert.KernelIdeal.main_v714)) (Φ₂ (Proc.devRef .tc Cert.ReferenceIdeal.main_v718)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 0) rfl) :) e102 e105 e54
  have e107 : @Eq ((⟨Cert.KernelIdeal.S131072x1, .i32⟩ : BufTy).Contents (Elt F)) (Φ₁ (Proc.devRef .tc Cert.KernelIdeal.main_v715)) (Φ₂ (Proc.devRef .tc Cert.ReferenceIdeal.main_v719)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 1) rfl) :) e99
  have e108 : @Eq ((⟨Cert.KernelIdeal.S131072x1, .i32⟩ : BufTy).Contents (Elt F)) (Φ₁ (Proc.devRef .tc Cert.KernelIdeal.main_v716)) (Φ₂ (Proc.devRef .tc Cert.ReferenceIdeal.main_v720)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 2) rfl) :) e106
  have e109 : @Eq ((⟨Cert.KernelIdeal.S131072x2, .i32⟩ : BufTy).Contents (Elt F)) (Φ₁ (Proc.devRef .tc Cert.KernelIdeal.main_v717)) (Φ₂ (Proc.devRef .tc Cert.ReferenceIdeal.main_v721)) := by rw [eq2 (at_ fa8 (i := 34) rfl), eq2 (at_ fb2 (i := 3) rfl), e107, e108] <;> rfl
  have e110 : @Eq ((⟨Cert.KernelIdeal.S32x131072, .f32⟩ : BufTy).Contents (Elt F)) (Φ₁ (Proc.devRef .tc Cert.KernelIdeal.main_v718)) (Φ₂ (Proc.devRef .tc Cert.ReferenceIdeal.main_v722)) := by rw [eq2 (at_ fa8 (i := 35) rfl), eq2 (at_ fb2 (i := 4) rfl), x2, e109] <;> rfl
  have e111 : @Eq ((⟨Cert.KernelIdeal.S_, .i32⟩ : BufTy).Contents (Elt F)) (Φ₁ (Proc.devRef .tc Cert.KernelIdeal.main_c_240)) (Φ₂ (Proc.devRef .tc Cert.ReferenceIdeal.main_c_240)) := step0 (β := ((⟨Cert.KernelIdeal.S_, .i32⟩ : BufTy).Contents (Elt F))) (eq0 (at_ fa8 (i := 36) rfl) :) (eq0 (at_ fb2 (i := 5) rfl) :)
  have e112 : @Eq ((⟨Cert.KernelIdeal.S131072, .i32⟩ : BufTy).Contents (Elt F)) (Φ₁ (Proc.devRef .tc Cert.KernelIdeal.main_v719)) (Φ₂ (Proc.devRef .tc Cert.ReferenceIdeal.main_v723)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 6) rfl) :) e111
  have e113 : @Eq ((⟨Cert.KernelIdeal.S131072, .i1⟩ : BufTy).Contents (Elt F)) (Φ₁ (Proc.devRef .tc Cert.KernelIdeal.main_v720)) (Φ₂ (Proc.devRef .tc Cert.ReferenceIdeal.main_v724)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 7) rfl) :) e74 e112
  have e114 : @Eq ((⟨Cert.KernelIdeal.S_, .i32⟩ : BufTy).Contents (Elt F)) (Φ₁ (Proc.devRef .tc Cert.KernelIdeal.main_c_241)) (Φ₂ (Proc.devRef .tc Cert.ReferenceIdeal.main_c_241)) := step0 (β := ((⟨Cert.KernelIdeal.S_, .i32⟩ : BufTy).Contents (Elt F))) (eq0 (at_ fa8 (i := 39) rfl) :) (eq0 (at_ fb2 (i := 8) rfl) :)
  have e115 : @Eq ((⟨Cert.KernelIdeal.S131072, .i32⟩ : BufTy).Contents (Elt F)) (Φ₁ (Proc.devRef .tc Cert.KernelIdeal.main_v721)) (Φ₂ (Proc.devRef .tc Cert.ReferenceIdeal.main_v725)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 9) rfl) :) e114
  have e116 : @Eq ((⟨Cert.KernelIdeal.S131072, .i32⟩ : BufTy).Contents (Elt F)) (Φ₁ (Proc.devRef .tc Cert.KernelIdeal.main_v722)) (Φ₂ (Proc.devRef .tc Cert.ReferenceIdeal.main_v726)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 10) rfl) :) e74 e115
  have e117 : @Eq ((⟨Cert.KernelIdeal.S131072, .i32⟩ : BufTy).Contents (Elt F)) (Φ₁ (Proc.devRef .tc Cert.KernelIdeal.main_v723)) (Φ₂ (Proc.devRef .tc Cert.ReferenceIdeal.main_v727)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 11) rfl) :) e113 e116 e74
  have e118 : @Eq ((⟨Cert.KernelIdeal.S_, .i32⟩ : BufTy).Contents (Elt F)) (Φ₁ (Proc.devRef .tc Cert.KernelIdeal.main_c_242)) (Φ₂ (Proc.devRef .tc Cert.ReferenceIdeal.main_c_242)) := step0 (β := ((⟨Cert.KernelIdeal.S_, .i32⟩ : BufTy).Contents (Elt F))) (eq0 (at_ fa8 (i := 43) rfl) :) (eq0 (at_ fb2 (i := 12) rfl) :)
  have e119 : @Eq ((⟨Cert.KernelIdeal.S131072, .i32⟩ : BufTy).Contents (Elt F)) (Φ₁ (Proc.devRef .tc Cert.KernelIdeal.main_v724)) (Φ₂ (Proc.devRef .tc Cert.ReferenceIdeal.main_v728)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 13) rfl) :) e118
  have e120 : @Eq ((⟨Cert.KernelIdeal.S131072, .i1⟩ : BufTy).Contents (Elt F)) (Φ₁ (Proc.devRef .tc Cert.KernelIdeal.main_v725)) (Φ₂ (Proc.devRef .tc Cert.ReferenceIdeal.main_v729)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 14) rfl) :) e43 e119
  have e121 : @Eq ((⟨Cert.KernelIdeal.S_, .i32⟩ : BufTy).Contents (Elt F)) (Φ₁ (Proc.devRef .tc Cert.KernelIdeal.main_c_243)) (Φ₂ (Proc.devRef .tc Cert.ReferenceIdeal.main_c_243)) := step0 (β := ((⟨Cert.KernelIdeal.S_, .i32⟩ : BufTy).Contents (Elt F))) (eq0 (at_ fa8 (i := 46) rfl) :) (eq0 (at_ fb2 (i := 15) rfl) :)
  have e122 : @Eq ((⟨Cert.KernelIdeal.S131072, .i32⟩ : BufTy).Contents (Elt F)) (Φ₁ (Proc.devRef .tc Cert.KernelIdeal.main_v726)) (Φ₂ (Proc.devRef .tc Cert.ReferenceIdeal.main_v730)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 16) rfl) :) e121
  have e123 : @Eq ((⟨Cert.KernelIdeal.S131072, .i32⟩ : BufTy).Contents (Elt F)) (Φ₁ (Proc.devRef .tc Cert.KernelIdeal.main_v727)) (Φ₂ (Proc.devRef .tc Cert.ReferenceIdeal.main_v731)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 17) rfl) :) e43 e122
  have e124 : @Eq ((⟨Cert.KernelIdeal.S131072, .i32⟩ : BufTy).Contents (Elt F)) (Φ₁ (Proc.devRef .tc Cert.KernelIdeal.main_v728)) (Φ₂ (Proc.devRef .tc Cert.ReferenceIdeal.main_v732)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 18) rfl) :) e120 e123 e43
  have e125 : @Eq ((⟨Cert.KernelIdeal.S131072x1, .i32⟩ : BufTy).Contents (Elt F)) (Φ₁ (Proc.devRef .tc Cert.KernelIdeal.main_v729)) (Φ₂ (Proc.devRef .tc Cert.ReferenceIdeal.main_v733)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 19) rfl) :) e117
  have e126 : @Eq ((⟨Cert.KernelIdeal.S131072x1, .i32⟩ : BufTy).Contents (Elt F)) (Φ₁ (Proc.devRef .tc Cert.KernelIdeal.main_v730)) (Φ₂ (Proc.devRef .tc Cert.ReferenceIdeal.main_v734)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 20) rfl) :) e124
  have e127 : @Eq ((⟨Cert.KernelIdeal.S131072x2, .i32⟩ : BufTy).Contents (Elt F)) (Φ₁ (Proc.devRef .tc Cert.KernelIdeal.main_v731)) (Φ₂ (Proc.devRef .tc Cert.ReferenceIdeal.main_v735)) := by rw [eq2 (at_ fa8 (i := 52) rfl), eq2 (at_ fb2 (i := 21) rfl), e125, e126] <;> rfl
  have e128 : @Eq ((⟨Cert.KernelIdeal.S32x131072, .f32⟩ : BufTy).Contents (Elt F)) (Φ₁ (Proc.devRef .tc Cert.KernelIdeal.main_v732)) (Φ₂ (Proc.devRef .tc Cert.ReferenceIdeal.main_v736)) := by rw [eq2 (at_ fa8 (i := 53) rfl), eq2 (at_ fb2 (i := 22) rfl), x2, e127] <;> rfl
  have e129 : @Eq ((⟨Cert.KernelIdeal.S_, .i32⟩ : BufTy).Contents (Elt F)) (Φ₁ (Proc.devRef .tc Cert.KernelIdeal.main_c_244)) (Φ₂ (Proc.devRef .tc Cert.ReferenceIdeal.main_c_244)) := step0 (β := ((⟨Cert.KernelIdeal.S_, .i32⟩ : BufTy).Contents (Elt F))) (eq0 (at_ fa8 (i := 54) rfl) :) (eq0 (at_ fb2 (i := 23) rfl) :)
  have e130 : @Eq ((⟨Cert.KernelIdeal.S131072, .i32⟩ : BufTy).Contents (Elt F)) (Φ₁ (Proc.devRef .tc Cert.KernelIdeal.main_v733)) (Φ₂ (Proc.devRef .tc Cert.ReferenceIdeal.main_v737)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 24) rfl) :) e129
  have e131 : @Eq ((⟨Cert.KernelIdeal.S131072, .i1⟩ : BufTy).Contents (Elt F)) (Φ₁ (Proc.devRef .tc Cert.KernelIdeal.main_v734)) (Φ₂ (Proc.devRef .tc Cert.ReferenceIdeal.main_v738)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 25) rfl) :) e74 e130
  have e132 : @Eq ((⟨Cert.KernelIdeal.S_, .i32⟩ : BufTy).Contents (Elt F)) (Φ₁ (Proc.devRef .tc Cert.KernelIdeal.main_c_245)) (Φ₂ (Proc.devRef .tc Cert.ReferenceIdeal.main_c_245)) := step0 (β := ((⟨Cert.KernelIdeal.S_, .i32⟩ : BufTy).Contents (Elt F))) (eq0 (at_ fa8 (i := 57) rfl) :) (eq0 (at_ fb2 (i := 26) rfl) :)
  have e133 : @Eq ((⟨Cert.KernelIdeal.S131072, .i32⟩ : BufTy).Contents (Elt F)) (Φ₁ (Proc.devRef .tc Cert.KernelIdeal.main_v735)) (Φ₂ (Proc.devRef .tc Cert.ReferenceIdeal.main_v739)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 27) rfl) :) e132
  have e134 : @Eq ((⟨Cert.KernelIdeal.S131072, .i32⟩ : BufTy).Contents (Elt F)) (Φ₁ (Proc.devRef .tc Cert.KernelIdeal.main_v736)) (Φ₂ (Proc.devRef .tc Cert.ReferenceIdeal.main_v740)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 28) rfl) :) e74 e133
  have e135 : @Eq ((⟨Cert.KernelIdeal.S131072, .i32⟩ : BufTy).Contents (Elt F)) (Φ₁ (Proc.devRef .tc Cert.KernelIdeal.main_v737)) (Φ₂ (Proc.devRef .tc Cert.ReferenceIdeal.main_v741)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 29) rfl) :) e131 e134 e74
  have e136 : @Eq ((⟨Cert.KernelIdeal.S_, .i32⟩ : BufTy).Contents (Elt F)) (Φ₁ (Proc.devRef .tc Cert.KernelIdeal.main_c_246)) (Φ₂ (Proc.devRef .tc Cert.ReferenceIdeal.main_c_246)) := step0 (β := ((⟨Cert.KernelIdeal.S_, .i32⟩ : BufTy).Contents (Elt F))) (eq0 (at_ fa8 (i := 61) rfl) :) (eq0 (at_ fb2 (i := 30) rfl) :)
  have e137 : @Eq ((⟨Cert.KernelIdeal.S131072, .i32⟩ : BufTy).Contents (Elt F)) (Φ₁ (Proc.devRef .tc Cert.KernelIdeal.main_v738)) (Φ₂ (Proc.devRef .tc Cert.ReferenceIdeal.main_v742)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 31) rfl) :) e136
  have e138 : @Eq ((⟨Cert.KernelIdeal.S131072, .i1⟩ : BufTy).Contents (Elt F)) (Φ₁ (Proc.devRef .tc Cert.KernelIdeal.main_v739)) (Φ₂ (Proc.devRef .tc Cert.ReferenceIdeal.main_v743)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 32) rfl) :) e54 e137
  have e139 : @Eq ((⟨Cert.KernelIdeal.S_, .i32⟩ : BufTy).Contents (Elt F)) (Φ₁ (Proc.devRef .tc Cert.KernelIdeal.main_c_247)) (Φ₂ (Proc.devRef .tc Cert.ReferenceIdeal.main_c_247)) := step0 (β := ((⟨Cert.KernelIdeal.S_, .i32⟩ : BufTy).Contents (Elt F))) (eq0 (at_ fa8 (i := 64) rfl) :) (eq0 (at_ fb2 (i := 33) rfl) :)
  have e140 : @Eq ((⟨Cert.KernelIdeal.S131072, .i32⟩ : BufTy).Contents (Elt F)) (Φ₁ (Proc.devRef .tc Cert.KernelIdeal.main_v740)) (Φ₂ (Proc.devRef .tc Cert.ReferenceIdeal.main_v744)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 34) rfl) :) e139
  have e141 : @Eq ((⟨Cert.KernelIdeal.S131072, .i32⟩ : BufTy).Contents (Elt F)) (Φ₁ (Proc.devRef .tc Cert.KernelIdeal.main_v741)) (Φ₂ (Proc.devRef .tc Cert.ReferenceIdeal.main_v745)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 35) rfl) :) e54 e140
  have e142 : @Eq ((⟨Cert.KernelIdeal.S131072, .i32⟩ : BufTy).Contents (Elt F)) (Φ₁ (Proc.devRef .tc Cert.KernelIdeal.main_v742)) (Φ₂ (Proc.devRef .tc Cert.ReferenceIdeal.main_v746)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 36) rfl) :) e138 e141 e54
  have e143 : @Eq ((⟨Cert.KernelIdeal.S131072x1, .i32⟩ : BufTy).Contents (Elt F)) (Φ₁ (Proc.devRef .tc Cert.KernelIdeal.main_v743)) (Φ₂ (Proc.devRef .tc Cert.ReferenceIdeal.main_v747)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 37) rfl) :) e135
  have e144 : @Eq ((⟨Cert.KernelIdeal.S131072x1, .i32⟩ : BufTy).Contents (Elt F)) (Φ₁ (Proc.devRef .tc Cert.KernelIdeal.main_v744)) (Φ₂ (Proc.devRef .tc Cert.ReferenceIdeal.main_v748)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 38) rfl) :) e142
  have e145 : @Eq ((⟨Cert.KernelIdeal.S131072x2, .i32⟩ : BufTy).Contents (Elt F)) (Φ₁ (Proc.devRef .tc Cert.KernelIdeal.main_v745)) (Φ₂ (Proc.devRef .tc Cert.ReferenceIdeal.main_v749)) := by rw [eq2 (at_ fa8 (i := 70) rfl), eq2 (at_ fb2 (i := 39) rfl), e143, e144] <;> rfl
  have e146 : @Eq ((⟨Cert.KernelIdeal.S32x131072, .f32⟩ : BufTy).Contents (Elt F)) (Φ₁ (Proc.devRef .tc Cert.KernelIdeal.main_v746)) (Φ₂ (Proc.devRef .tc Cert.ReferenceIdeal.main_v750)) := by rw [eq2 (at_ fa8 (i := 71) rfl), eq2 (at_ fb2 (i := 40) rfl), x2, e145] <;> rfl
  have e147 : @Eq ((⟨Cert.KernelIdeal.S_, .f32⟩ : BufTy).Contents (Elt F)) (Φ₁ (Proc.devRef .tc Cert.KernelIdeal.main_cst_248)) (Φ₂ (Proc.devRef .tc Cert.ReferenceIdeal.main_cst_248)) := step0 (β := ((⟨Cert.KernelIdeal.S_, .f32⟩ : BufTy).Contents (Elt F))) (eq0 (at_ fa8 (i := 72) rfl) :) (eq0 (at_ fb2 (i := 41) rfl) :)
  have e148 : @Eq ((⟨Cert.KernelIdeal.S131072, .f32⟩ : BufTy).Contents (Elt F)) (Φ₁ (Proc.devRef .tc Cert.KernelIdeal.main_v747)) (Φ₂ (Proc.devRef .tc Cert.ReferenceIdeal.main_v751)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 42) rfl) :) e147
  have e149 : @Eq ((⟨Cert.KernelIdeal.S131072, .f32⟩ : BufTy).Contents (Elt F)) (Φ₁ (Proc.devRef .tc Cert.KernelIdeal.main_v748)) (Φ₂ (Proc.devRef .tc Cert.ReferenceIdeal.main_v752)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 43) rfl) :) e148 e33
  have e150 : @Eq ((⟨Cert.KernelIdeal.S1x131072, .f32⟩ : BufTy).Contents (Elt F)) (Φ₁ (Proc.devRef .tc Cert.KernelIdeal.main_v749)) (Φ₂ (Proc.devRef .tc Cert.ReferenceIdeal.main_v753)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 44) rfl) :) e149
  have e151 : @Eq ((⟨Cert.KernelIdeal.S32x131072, .f32⟩ : BufTy).Contents (Elt F)) (Φ₁ (Proc.devRef .tc Cert.KernelIdeal.main_v750)) (Φ₂ (Proc.devRef .tc Cert.ReferenceIdeal.main_v754)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 45) rfl) :) e150
  have e152 : @Eq ((⟨Cert.KernelIdeal.S32x131072, .f32⟩ : BufTy).Contents (Elt F)) (Φ₁ (Proc.devRef .tc Cert.KernelIdeal.main_v751)) (Φ₂ (Proc.devRef .tc Cert.ReferenceIdeal.main_v755)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 46) rfl) :) e92 e151
  have e153 : @Eq ((⟨Cert.KernelIdeal.S_, .f32⟩ : BufTy).Contents (Elt F)) (Φ₁ (Proc.devRef .tc Cert.KernelIdeal.main_cst_249)) (Φ₂ (Proc.devRef .tc Cert.ReferenceIdeal.main_cst_249)) := step0 (β := ((⟨Cert.KernelIdeal.S_, .f32⟩ : BufTy).Contents (Elt F))) (eq0 (at_ fa8 (i := 78) rfl) :) (eq0 (at_ fb2 (i := 47) rfl) :)
  have e154 : @Eq ((⟨Cert.KernelIdeal.S131072, .f32⟩ : BufTy).Contents (Elt F)) (Φ₁ (Proc.devRef .tc Cert.KernelIdeal.main_v752)) (Φ₂ (Proc.devRef .tc Cert.ReferenceIdeal.main_v756)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 48) rfl) :) e153
  have e155 : @Eq ((⟨Cert.KernelIdeal.S131072, .f32⟩ : BufTy).Contents (Elt F)) (Φ₁ (Proc.devRef .tc Cert.KernelIdeal.main_v753)) (Φ₂ (Proc.devRef .tc Cert.ReferenceIdeal.main_v757)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 49) rfl) :) e154 e34
  have e156 : @Eq ((⟨Cert.KernelIdeal.S1x131072, .f32⟩ : BufTy).Contents (Elt F)) (Φ₁ (Proc.devRef .tc Cert.KernelIdeal.main_v754)) (Φ₂ (Proc.devRef .tc Cert.ReferenceIdeal.main_v758)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 50) rfl) :) e155
  have e157 : @Eq ((⟨Cert.KernelIdeal.S32x131072, .f32⟩ : BufTy).Contents (Elt F)) (Φ₁ (Proc.devRef .tc Cert.KernelIdeal.main_v755)) (Φ₂ (Proc.devRef .tc Cert.ReferenceIdeal.main_v759)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 51) rfl) :) e156
  have e158 : @Eq ((⟨Cert.KernelIdeal.S32x131072, .f32⟩ : BufTy).Contents (Elt F)) (Φ₁ (Proc.devRef .tc Cert.KernelIdeal.main_v756)) (Φ₂ (Proc.devRef .tc Cert.ReferenceIdeal.main_v760)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 52) rfl) :) e152 e157
  have e159 : @Eq ((⟨Cert.KernelIdeal.S1x131072, .f32⟩ : BufTy).Contents (Elt F)) (Φ₁ (Proc.devRef .tc Cert.KernelIdeal.main_v757)) (Φ₂ (Proc.devRef .tc Cert.ReferenceIdeal.main_v761)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 53) rfl) :) e33
  have e160 : @Eq ((⟨Cert.KernelIdeal.S32x131072, .f32⟩ : BufTy).Contents (Elt F)) (Φ₁ (Proc.devRef .tc Cert.KernelIdeal.main_v758)) (Φ₂ (Proc.devRef .tc Cert.ReferenceIdeal.main_v762)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 54) rfl) :) e159
  have e161 : @Eq ((⟨Cert.KernelIdeal.S32x131072, .f32⟩ : BufTy).Contents (Elt F)) (Φ₁ (Proc.devRef .tc Cert.KernelIdeal.main_v759)) (Φ₂ (Proc.devRef .tc Cert.ReferenceIdeal.main_v763)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 55) rfl) :) e110 e160
  have e162 : @Eq ((⟨Cert.KernelIdeal.S_, .f32⟩ : BufTy).Contents (Elt F)) (Φ₁ (Proc.devRef .tc Cert.KernelIdeal.main_cst_250)) (Φ₂ (Proc.devRef .tc Cert.ReferenceIdeal.main_cst_250)) := step0 (β := ((⟨Cert.KernelIdeal.S_, .f32⟩ : BufTy).Contents (Elt F))) (eq0 (at_ fa8 (i := 87) rfl) :) (eq0 (at_ fb2 (i := 56) rfl) :)
  have e163 : @Eq ((⟨Cert.KernelIdeal.S131072, .f32⟩ : BufTy).Contents (Elt F)) (Φ₁ (Proc.devRef .tc Cert.KernelIdeal.main_v760)) (Φ₂ (Proc.devRef .tc Cert.ReferenceIdeal.main_v764)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 57) rfl) :) e162
  have e164 : @Eq ((⟨Cert.KernelIdeal.S131072, .f32⟩ : BufTy).Contents (Elt F)) (Φ₁ (Proc.devRef .tc Cert.KernelIdeal.main_v761)) (Φ₂ (Proc.devRef .tc Cert.ReferenceIdeal.main_v765)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 58) rfl) :) e163 e34
  have e165 : @Eq ((⟨Cert.KernelIdeal.S1x131072, .f32⟩ : BufTy).Contents (Elt F)) (Φ₁ (Proc.devRef .tc Cert.KernelIdeal.main_v762)) (Φ₂ (Proc.devRef .tc Cert.ReferenceIdeal.main_v766)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 59) rfl) :) e164
  have e166 : @Eq ((⟨Cert.KernelIdeal.S32x131072, .f32⟩ : BufTy).Contents (Elt F)) (Φ₁ (Proc.devRef .tc Cert.KernelIdeal.main_v763)) (Φ₂ (Proc.devRef .tc Cert.ReferenceIdeal.main_v767)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 0) rfl) :) e165
  have e167 : @Eq ((⟨Cert.KernelIdeal.S32x131072, .f32⟩ : BufTy).Contents (Elt F)) (Φ₁ (Proc.devRef .tc Cert.KernelIdeal.main_v764)) (Φ₂ (Proc.devRef .tc Cert.ReferenceIdeal.main_v768)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 1) rfl) :) e161 e166
  have e168 : @Eq ((⟨Cert.KernelIdeal.S32x131072, .f32⟩ : BufTy).Contents (Elt F)) (Φ₁ (Proc.devRef .tc Cert.KernelIdeal.main_v765)) (Φ₂ (Proc.devRef .tc Cert.ReferenceIdeal.main_v769)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 2) rfl) :) e158 e167
  have e169 : @Eq ((⟨Cert.KernelIdeal.S_, .f32⟩ : BufTy).Contents (Elt F)) (Φ₁ (Proc.devRef .tc Cert.KernelIdeal.main_cst_251)) (Φ₂ (Proc.devRef .tc Cert.ReferenceIdeal.main_cst_251)) := step0 (β := ((⟨Cert.KernelIdeal.S_, .f32⟩ : BufTy).Contents (Elt F))) (eq0 (at_ fa8 (i := 94) rfl) :) (eq0 (at_ fb3 (i := 3) rfl) :)
  have e170 : @Eq ((⟨Cert.KernelIdeal.S131072, .f32⟩ : BufTy).Contents (Elt F)) (Φ₁ (Proc.devRef .tc Cert.KernelIdeal.main_v766)) (Φ₂ (Proc.devRef .tc Cert.ReferenceIdeal.main_v770)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 4) rfl) :) e169
  have e171 : @Eq ((⟨Cert.KernelIdeal.S131072, .f32⟩ : BufTy).Contents (Elt F)) (Φ₁ (Proc.devRef .tc Cert.KernelIdeal.main_v767)) (Φ₂ (Proc.devRef .tc Cert.ReferenceIdeal.main_v771)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 5) rfl) :) e170 e33
  have e172 : @Eq ((⟨Cert.KernelIdeal.S1x131072, .f32⟩ : BufTy).Contents (Elt F)) (Φ₁ (Proc.devRef .tc Cert.KernelIdeal.main_v768)) (Φ₂ (Proc.devRef .tc Cert.ReferenceIdeal.main_v772)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 6) rfl) :) e171
  have e173 : @Eq ((⟨Cert.KernelIdeal.S32x131072, .f32⟩ : BufTy).Contents (Elt F)) (Φ₁ (Proc.devRef .tc Cert.KernelIdeal.main_v769)) (Φ₂ (Proc.devRef .tc Cert.ReferenceIdeal.main_v773)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 7) rfl) :) e172
  have e174 : @Eq ((⟨Cert.KernelIdeal.S32x131072, .f32⟩ : BufTy).Contents (Elt F)) (Φ₁ (Proc.devRef .tc Cert.KernelIdeal.main_v770)) (Φ₂ (Proc.devRef .tc Cert.ReferenceIdeal.main_v774)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 8) rfl) :) e128 e173
  have e175 : @Eq ((⟨Cert.KernelIdeal.S1x131072, .f32⟩ : BufTy).Contents (Elt F)) (Φ₁ (Proc.devRef .tc Cert.KernelIdeal.main_v771)) (Φ₂ (Proc.devRef .tc Cert.ReferenceIdeal.main_v775)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 9) rfl) :) e34
  have e176 : @Eq ((⟨Cert.KernelIdeal.S32x131072, .f32⟩ : BufTy).Contents (Elt F)) (Φ₁ (Proc.devRef .tc Cert.KernelIdeal.main_v772)) (Φ₂ (Proc.devRef .tc Cert.ReferenceIdeal.main_v776)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 10) rfl) :) e175
  have e177 : @Eq ((⟨Cert.KernelIdeal.S32x131072, .f32⟩ : BufTy).Contents (Elt F)) (Φ₁ (Proc.devRef .tc Cert.KernelIdeal.main_v773)) (Φ₂ (Proc.devRef .tc Cert.ReferenceIdeal.main_v777)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 11) rfl) :) e174 e176
  have e178 : @Eq ((⟨Cert.KernelIdeal.S32x131072, .f32⟩ : BufTy).Contents (Elt F)) (Φ₁ (Proc.devRef .tc Cert.KernelIdeal.main_v774)) (Φ₂ (Proc.devRef .tc Cert.ReferenceIdeal.main_v778)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 12) rfl) :) e168 e177
  have e179 : @Eq ((⟨Cert.KernelIdeal.S1x131072, .f32⟩ : BufTy).Contents (Elt F)) (Φ₁ (Proc.devRef .tc Cert.KernelIdeal.main_v775)) (Φ₂ (Proc.devRef .tc Cert.ReferenceIdeal.main_v779)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 13) rfl) :) e33
  have e180 : @Eq ((⟨Cert.KernelIdeal.S32x131072, .f32⟩ : BufTy).Contents (Elt F)) (Φ₁ (Proc.devRef .tc Cert.KernelIdeal.main_v776)) (Φ₂ (Proc.devRef .tc Cert.ReferenceIdeal.main_v780)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 14) rfl) :) e179
  have e181 : @Eq ((⟨Cert.KernelIdeal.S32x131072, .f32⟩ : BufTy).Contents (Elt F)) (Φ₁ (Proc.devRef .tc Cert.KernelIdeal.main_v777)) (Φ₂ (Proc.devRef .tc Cert.ReferenceIdeal.main_v781)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 15) rfl) :) e146 e180
  have e182 : @Eq ((⟨Cert.KernelIdeal.S1x131072, .f32⟩ : BufTy).Contents (Elt F)) (Φ₁ (Proc.devRef .tc Cert.KernelIdeal.main_v778)) (Φ₂ (Proc.devRef .tc Cert.ReferenceIdeal.main_v782)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 16) rfl) :) e34
  have e183 : @Eq ((⟨Cert.KernelIdeal.S32x131072, .f32⟩ : BufTy).Contents (Elt F)) (Φ₁ (Proc.devRef .tc Cert.KernelIdeal.main_v779)) (Φ₂ (Proc.devRef .tc Cert.ReferenceIdeal.main_v783)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 17) rfl) :) e182
  have e184 : @Eq ((⟨Cert.KernelIdeal.S32x131072, .f32⟩ : BufTy).Contents (Elt F)) (Φ₁ (Proc.devRef .tc Cert.KernelIdeal.main_v780)) (Φ₂ (Proc.devRef .tc Cert.ReferenceIdeal.main_v784)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 18) rfl) :) e181 e183
  have e185 : @Eq ((⟨Cert.KernelIdeal.S32x131072, .f32⟩ : BufTy).Contents (Elt F)) (Φ₁ (Proc.devRef .tc Cert.KernelIdeal.main_v781)) (Φ₂ (Proc.devRef .tc Cert.ReferenceIdeal.main_v785)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 19) rfl) :) e178 e184
  have e186 : @Eq ((⟨Cert.KernelIdeal.S131072x32, .f32⟩ : BufTy).Contents (Elt F)) (Φ₁ (Proc.devRef .tc Cert.KernelIdeal.main_v782)) (Φ₂ (Proc.devRef .tc Cert.ReferenceIdeal.main_v786)) := by rw [eq1 (at_ fa8 (i := 111) rfl), eq1 (at_ fb3 (i := 20) rfl), e185] <;> rfl
  exact e186

end Cert.Bridge

end
-- ==== Proof.SimB6.lean ====
/- Operations 1157 … 1343 of the one program and 1162 … 1348 of the other apply the same functions to corresponding
   buffers. If both programs' final contents satisfy their own lines' equations and agree on the buffers these operations
   read from outside, they agree on what these operations write: one congruence per operation, in program order. -/
import proofs.«133805_j10187662426200_2_alg».proof.Proof.KIStretch1
import proofs.«133805_j10187662426200_2_alg».proof.Proof.RefOps2
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B6 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_48 : List (HloOp Cert.KernelIdeal.τ Cert.KernelIdeal.sig (Elt F))).Forall fun op => ∀ b ∈ op.writes, Φ₁ b = op.result Φ₁ b)
    (fa1 : (Cert.KernelIdeal.Gen.hostOps0_49 : List (HloOp Cert.KernelIdeal.τ Cert.KernelIdeal.sig (Elt F))).Forall fun op => ∀ b ∈ op.writes, Φ₁ b = op.result Φ₁ b)
    (fa2 : (Cert.KernelIdeal.Gen.hostOps0_50 : List (HloOp Cert.KernelIdeal.τ Cert.KernelIdeal.sig (Elt F))).Forall fun op => ∀ b ∈ op.writes, Φ₁ b = op.result Φ₁ b)
    (fa3 : (Cert.KernelIdeal.Gen.hostOps0_51 : List (HloOp Cert.KernelIdeal.τ Cert.KernelIdeal.sig (Elt F))).Forall fun op => ∀ b ∈ op.writes, Φ₁ b = op.result Φ₁ b)
    (fa4 : (Cert.KernelIdeal.Gen.hostOps0_52 : List (HloOp Cert.KernelIdeal.τ Cert.KernelIdeal.sig (Elt F))).Forall fun op => ∀ b ∈ op.writes, Φ₁ b = op.result Φ₁ b)
    (fa5 : (Cert.KernelIdeal.Gen.hostOps0_53 : List (HloOp Cert.KernelIdeal.τ Cert.KernelIdeal.sig (Elt F))).Forall fun op => ∀ b ∈ op.writes, Φ₁ b = op.result Φ₁ b)
    (fa6 : (Cert.KernelIdeal.Gen.hostOps0_54 : List (HloOp Cert.KernelIdeal.τ Cert.KernelIdeal.sig (Elt F))).Forall fun op => ∀ b ∈ op.writes, Φ₁ b = op.result Φ₁ b)
    (fa7 : (Cert.KernelIdeal.Gen.hostOps0_55 : List (HloOp Cert.KernelIdeal.τ Cert.KernelIdeal.sig (Elt F))).Forall fun op => ∀ b ∈ op.writes, Φ₁ b = op.result Φ₁ b)
    (fa8 : (Cert.KernelIdeal.Gen.hostOps0_56 : List (HloOp Cert.KernelIdeal.τ Cert.KernelIdeal.sig (Elt F))).Forall fun op => ∀ b ∈ op.writes, Φ₁ b = op.result Φ₁ b)
    (fb0 : (Cert.ReferenceIdeal.Ops.w17 : List (HloOp Cert.ReferenceIdeal.τ Cert.ReferenceIdeal.sig (Elt F))).Forall fun op => ∀ b ∈ op.writes, Φ₂ b = op.result Φ₂ b)
    (fb1 : (Cert.ReferenceIdeal.Ops.w18 : List (HloOp Cert.ReferenceIdeal.τ Cert.ReferenceIdeal.sig (Elt F))).Forall fun op => ∀ b ∈ op.writes, Φ₂ b = op.result Φ₂ b)
    (fb2 : (Cert.ReferenceIdeal.Ops.w19 : List (HloOp Cert.ReferenceIdeal.τ Cert.ReferenceIdeal.sig (Elt F))).Forall fun op => ∀ b ∈ op.writes, Φ₂ b = op.result Φ₂ b)
    (fb3 : (Cert.ReferenceIdeal.Ops.w20 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_5)) (Φ₂ (Proc.devRef .tc Cert.ReferenceIdeal.main_c_5)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x128x128, .f32⟩ : BufTy).Contents (Elt F)) (Φ₁ (Proc.devRef .tc Cert.KernelIdeal.main_arg8)) (Φ₂ (Proc.devRef .tc Cert.ReferenceIdeal.main_arg8)))
    : @Eq ((⟨Cert.KernelIdeal.S131072x32, .f32⟩ : BufTy).Contents (Elt F)) (Φ₁ (Proc.devRef .tc Cert.KernelIdeal.main_v911)) (Φ₂ (Proc.devRef .tc Cert.ReferenceIdeal.main_v916)) := by
  have e0 : @Eq ((⟨Cert.KernelIdeal.S_, .i32⟩ : BufTy).Contents (Elt F)) (Φ₁ (Proc.devRef .tc Cert.KernelIdeal.main_c_252)) (Φ₂ (Proc.devRef .tc Cert.ReferenceIdeal.main_c_252)) := step0 (β := ((⟨Cert.KernelIdeal.S_, .i32⟩ : BufTy).Contents (Elt F))) (eq0 (at_ fa0 (i := 112) rfl) :) (eq0 (at_ fb0 (i := 22) rfl) :)
  have e1 : @Eq ((⟨Cert.KernelIdeal.S2, .i32⟩ : BufTy).Contents (Elt F)) (Φ₁ (Proc.devRef .tc Cert.KernelIdeal.main_v783)) (Φ₂ (Proc.devRef .tc Cert.ReferenceIdeal.main_v788)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 23) rfl) :) e0
  have e2 : @Eq ((⟨Cert.KernelIdeal.S2, .i1⟩ : BufTy).Contents (Elt F)) (Φ₁ (Proc.devRef .tc Cert.KernelIdeal.main_v784)) (Φ₂ (Proc.devRef .tc Cert.ReferenceIdeal.main_v789)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 24) rfl) :) x0 e1
  have e3 : @Eq ((⟨Cert.KernelIdeal.S_, .i32⟩ : BufTy).Contents (Elt F)) (Φ₁ (Proc.devRef .tc Cert.KernelIdeal.main_c_253)) (Φ₂ (Proc.devRef .tc Cert.ReferenceIdeal.main_c_253)) := step0 (β := ((⟨Cert.KernelIdeal.S_, .i32⟩ : BufTy).Contents (Elt F))) (eq0 (at_ fa0 (i := 115) rfl) :) (eq0 (at_ fb0 (i := 25) rfl) :)
  have e4 : @Eq ((⟨Cert.KernelIdeal.S2, .i32⟩ : BufTy).Contents (Elt F)) (Φ₁ (Proc.devRef .tc Cert.KernelIdeal.main_v785)) (Φ₂ (Proc.devRef .tc Cert.ReferenceIdeal.main_v790)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 26) rfl) :) e3
  have e5 : @Eq ((⟨Cert.KernelIdeal.S2, .i32⟩ : BufTy).Contents (Elt F)) (Φ₁ (Proc.devRef .tc Cert.KernelIdeal.main_v786)) (Φ₂ (Proc.devRef .tc Cert.ReferenceIdeal.main_v791)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 27) rfl) :) x0 e4
  have e6 : @Eq ((⟨Cert.KernelIdeal.S2, .i32⟩ : BufTy).Contents (Elt F)) (Φ₁ (Proc.devRef .tc Cert.KernelIdeal.main_v787)) (Φ₂ (Proc.devRef .tc Cert.ReferenceIdeal.main_v792)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 28) rfl) :) e2 e5 x0
  have e7 : @Eq ((⟨Cert.KernelIdeal.S2x1, .i32⟩ : BufTy).Contents (Elt F)) (Φ₁ (Proc.devRef .tc Cert.KernelIdeal.main_v788)) (Φ₂ (Proc.devRef .tc Cert.ReferenceIdeal.main_v793)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 29) rfl) :) e6
  have e8 : @Eq ((⟨Cert.KernelIdeal.S131072x2, .f32⟩ : BufTy).Contents (Elt F)) (Φ₁ (Proc.devRef .tc Cert.KernelIdeal.main_v789)) (Φ₂ (Proc.devRef .tc Cert.ReferenceIdeal.main_v794)) := by rw [eq2 (at_ fa0 (i := 120) rfl), eq2 (at_ fb0 (i := 30) rfl), x1, e7] <;> rfl
  have e9 : @Eq ((⟨Cert.KernelIdeal.S131072x1, .f32⟩ : BufTy).Contents (Elt F)) (Φ₁ (Proc.devRef .tc Cert.KernelIdeal.main_v790)) (Φ₂ (Proc.devRef .tc Cert.ReferenceIdeal.main_v795)) := by rw [eq1 (at_ fa0 (i := 121) rfl), eq1 (at_ fb0 (i := 31) rfl), e8] <;> rfl
  have e10 : @Eq ((⟨Cert.KernelIdeal.S131072, .f32⟩ : BufTy).Contents (Elt F)) (Φ₁ (Proc.devRef .tc Cert.KernelIdeal.main_v791)) (Φ₂ (Proc.devRef .tc Cert.ReferenceIdeal.main_v796)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 32) rfl) :) e9
  have e11 : @Eq ((⟨Cert.KernelIdeal.S_, .f32⟩ : BufTy).Contents (Elt F)) (Φ₁ (Proc.devRef .tc Cert.KernelIdeal.main_cst_254)) (Φ₂ (Proc.devRef .tc Cert.ReferenceIdeal.main_cst_254)) := step0 (β := ((⟨Cert.KernelIdeal.S_, .f32⟩ : BufTy).Contents (Elt F))) (eq0 (at_ fa0 (i := 123) rfl) :) (eq0 (at_ fb0 (i := 33) rfl) :)
  have e12 : @Eq ((⟨Cert.KernelIdeal.S131072, .f32⟩ : BufTy).Contents (Elt F)) (Φ₁ (Proc.devRef .tc Cert.KernelIdeal.main_v792)) (Φ₂ (Proc.devRef .tc Cert.ReferenceIdeal.main_v797)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 34) rfl) :) e11
  have e13 : @Eq ((⟨Cert.KernelIdeal.S131072, .f32⟩ : BufTy).Contents (Elt F)) (Φ₁ (Proc.devRef .tc Cert.KernelIdeal.main_v793)) (Φ₂ (Proc.devRef .tc Cert.ReferenceIdeal.main_v798)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 35) rfl) :) e10 e12
  have e14 : @Eq ((⟨Cert.KernelIdeal.S_, .f32⟩ : BufTy).Contents (Elt F)) (Φ₁ (Proc.devRef .tc Cert.KernelIdeal.main_cst_255)) (Φ₂ (Proc.devRef .tc Cert.ReferenceIdeal.main_cst_255)) := step0 (β := ((⟨Cert.KernelIdeal.S_, .f32⟩ : BufTy).Contents (Elt F))) (eq0 (at_ fa0 (i := 126) rfl) :) (eq0 (at_ fb0 (i := 36) rfl) :)
  have e15 : @Eq ((⟨Cert.KernelIdeal.S131072, .f32⟩ : BufTy).Contents (Elt F)) (Φ₁ (Proc.devRef .tc Cert.KernelIdeal.main_v794)) (Φ₂ (Proc.devRef .tc Cert.ReferenceIdeal.main_v799)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 37) rfl) :) e14
  have e16 : @Eq ((⟨Cert.KernelIdeal.S131072, .f32⟩ : BufTy).Contents (Elt F)) (Φ₁ (Proc.devRef .tc Cert.KernelIdeal.main_v795)) (Φ₂ (Proc.devRef .tc Cert.ReferenceIdeal.main_v800)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 38) rfl) :) e13 e15
  have e17 : @Eq ((⟨Cert.KernelIdeal.S_, .f32⟩ : BufTy).Contents (Elt F)) (Φ₁ (Proc.devRef .tc Cert.KernelIdeal.main_cst_256)) (Φ₂ (Proc.devRef .tc Cert.ReferenceIdeal.main_cst_256)) := step0 (β := ((⟨Cert.KernelIdeal.S_, .f32⟩ : BufTy).Contents (Elt F))) (eq0 (at_ fa0 (i := 129) rfl) :) (eq0 (at_ fb0 (i := 39) rfl) :)
  have e18 : @Eq ((⟨Cert.KernelIdeal.S131072, .f32⟩ : BufTy).Contents (Elt F)) (Φ₁ (Proc.devRef .tc Cert.KernelIdeal.main_v796)) (Φ₂ (Proc.devRef .tc Cert.ReferenceIdeal.main_v801)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 40) rfl) :) e17
  have e19 : @Eq ((⟨Cert.KernelIdeal.S131072, .f32⟩ : BufTy).Contents (Elt F)) (Φ₁ (Proc.devRef .tc Cert.KernelIdeal.main_v797)) (Φ₂ (Proc.devRef .tc Cert.ReferenceIdeal.main_v802)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 41) rfl) :) e16 e18
  have e20 : @Eq ((⟨Cert.KernelIdeal.S131072x1, .f32⟩ : BufTy).Contents (Elt F)) (Φ₁ (Proc.devRef .tc Cert.KernelIdeal.main_v798)) (Φ₂ (Proc.devRef .tc Cert.ReferenceIdeal.main_v803)) := by rw [eq1 (at_ fa0 (i := 132) rfl), eq1 (at_ fb0 (i := 42) rfl), e8] <;> rfl
  have e21 : @Eq ((⟨Cert.KernelIdeal.S131072, .f32⟩ : BufTy).Contents (Elt F)) (Φ₁ (Proc.devRef .tc Cert.KernelIdeal.main_v799)) (Φ₂ (Proc.devRef .tc Cert.ReferenceIdeal.main_v804)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 43) rfl) :) e20
  have e22 : @Eq ((⟨Cert.KernelIdeal.S_, .f32⟩ : BufTy).Contents (Elt F)) (Φ₁ (Proc.devRef .tc Cert.KernelIdeal.main_cst_257)) (Φ₂ (Proc.devRef .tc Cert.ReferenceIdeal.main_cst_257)) := step0 (β := ((⟨Cert.KernelIdeal.S_, .f32⟩ : BufTy).Contents (Elt F))) (eq0 (at_ fa0 (i := 134) rfl) :) (eq0 (at_ fb0 (i := 44) rfl) :)
  have e23 : @Eq ((⟨Cert.KernelIdeal.S131072, .f32⟩ : BufTy).Contents (Elt F)) (Φ₁ (Proc.devRef .tc Cert.KernelIdeal.main_v800)) (Φ₂ (Proc.devRef .tc Cert.ReferenceIdeal.main_v805)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 45) rfl) :) e22
  have e24 : @Eq ((⟨Cert.KernelIdeal.S131072, .f32⟩ : BufTy).Contents (Elt F)) (Φ₁ (Proc.devRef .tc Cert.KernelIdeal.main_v801)) (Φ₂ (Proc.devRef .tc Cert.ReferenceIdeal.main_v806)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 46) rfl) :) e21 e23
  have e25 : @Eq ((⟨Cert.KernelIdeal.S_, .f32⟩ : BufTy).Contents (Elt F)) (Φ₁ (Proc.devRef .tc Cert.KernelIdeal.main_cst_258)) (Φ₂ (Proc.devRef .tc Cert.ReferenceIdeal.main_cst_258)) := step0 (β := ((⟨Cert.KernelIdeal.S_, .f32⟩ : BufTy).Contents (Elt F))) (eq0 (at_ fa0 (i := 137) rfl) :) (eq0 (at_ fb0 (i := 47) rfl) :)
  have e26 : @Eq ((⟨Cert.KernelIdeal.S131072, .f32⟩ : BufTy).Contents (Elt F)) (Φ₁ (Proc.devRef .tc Cert.KernelIdeal.main_v802)) (Φ₂ (Proc.devRef .tc Cert.ReferenceIdeal.main_v807)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 48) rfl) :) e25
  have e27 : @Eq ((⟨Cert.KernelIdeal.S131072, .f32⟩ : BufTy).Contents (Elt F)) (Φ₁ (Proc.devRef .tc Cert.KernelIdeal.main_v803)) (Φ₂ (Proc.devRef .tc Cert.ReferenceIdeal.main_v808)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 49) rfl) :) e24 e26
  have e28 : @Eq ((⟨Cert.KernelIdeal.S_, .f32⟩ : BufTy).Contents (Elt F)) (Φ₁ (Proc.devRef .tc Cert.KernelIdeal.main_cst_259)) (Φ₂ (Proc.devRef .tc Cert.ReferenceIdeal.main_cst_259)) := step0 (β := ((⟨Cert.KernelIdeal.S_, .f32⟩ : BufTy).Contents (Elt F))) (eq0 (at_ fa0 (i := 140) rfl) :) (eq0 (at_ fb0 (i := 50) rfl) :)
  have e29 : @Eq ((⟨Cert.KernelIdeal.S131072, .f32⟩ : BufTy).Contents (Elt F)) (Φ₁ (Proc.devRef .tc Cert.KernelIdeal.main_v804)) (Φ₂ (Proc.devRef .tc Cert.ReferenceIdeal.main_v809)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 51) rfl) :) e28
  have e30 : @Eq ((⟨Cert.KernelIdeal.S131072, .f32⟩ : BufTy).Contents (Elt F)) (Φ₁ (Proc.devRef .tc Cert.KernelIdeal.main_v805)) (Φ₂ (Proc.devRef .tc Cert.ReferenceIdeal.main_v810)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 52) rfl) :) e27 e29
  have e31 : @Eq ((⟨Cert.KernelIdeal.S131072, .f32⟩ : BufTy).Contents (Elt F)) (Φ₁ (Proc.devRef .tc Cert.KernelIdeal.main_v806)) (Φ₂ (Proc.devRef .tc Cert.ReferenceIdeal.main_v811)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 53) rfl) :) e19
  have e32 : @Eq ((⟨Cert.KernelIdeal.S131072, .f32⟩ : BufTy).Contents (Elt F)) (Φ₁ (Proc.devRef .tc Cert.KernelIdeal.main_v807)) (Φ₂ (Proc.devRef .tc Cert.ReferenceIdeal.main_v812)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 54) rfl) :) e30
  have e33 : @Eq ((⟨Cert.KernelIdeal.S131072, .f32⟩ : BufTy).Contents (Elt F)) (Φ₁ (Proc.devRef .tc Cert.KernelIdeal.main_v808)) (Φ₂ (Proc.devRef .tc Cert.ReferenceIdeal.main_v813)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 55) rfl) :) e19 e31
  have e34 : @Eq ((⟨Cert.KernelIdeal.S131072, .f32⟩ : BufTy).Contents (Elt F)) (Φ₁ (Proc.devRef .tc Cert.KernelIdeal.main_v809)) (Φ₂ (Proc.devRef .tc Cert.ReferenceIdeal.main_v814)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 56) rfl) :) e30 e32
  have e35 : @Eq ((⟨Cert.KernelIdeal.S131072, .i32⟩ : BufTy).Contents (Elt F)) (Φ₁ (Proc.devRef .tc Cert.KernelIdeal.main_v810)) (Φ₂ (Proc.devRef .tc Cert.ReferenceIdeal.main_v815)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 57) rfl) :) e31
  have e36 : @Eq ((⟨Cert.KernelIdeal.S_, .i32⟩ : BufTy).Contents (Elt F)) (Φ₁ (Proc.devRef .tc Cert.KernelIdeal.main_c_260)) (Φ₂ (Proc.devRef .tc Cert.ReferenceIdeal.main_c_260)) := step0 (β := ((⟨Cert.KernelIdeal.S_, .i32⟩ : BufTy).Contents (Elt F))) (eq0 (at_ fa0 (i := 148) rfl) :) (eq0 (at_ fb0 (i := 58) rfl) :)
  have e37 : @Eq ((⟨Cert.KernelIdeal.S_, .i32⟩ : BufTy).Contents (Elt F)) (Φ₁ (Proc.devRef .tc Cert.KernelIdeal.main_c_261)) (Φ₂ (Proc.devRef .tc Cert.ReferenceIdeal.main_c_261)) := step0 (β := ((⟨Cert.KernelIdeal.S_, .i32⟩ : BufTy).Contents (Elt F))) (eq0 (at_ fa0 (i := 149) rfl) :) (eq0 (at_ fb0 (i := 59) rfl) :)
  have e38 : @Eq ((⟨Cert.KernelIdeal.S_, .i32⟩ : BufTy).Contents (Elt F)) (Φ₁ (Proc.devRef .tc Cert.KernelIdeal.main_call24_v0)) (Φ₂ (Proc.devRef .tc Cert.ReferenceIdeal.main_call24_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 0) rfl) :) e36
  have e39 : @Eq ((⟨Cert.KernelIdeal.S131072, .i32⟩ : BufTy).Contents (Elt F)) (Φ₁ (Proc.devRef .tc Cert.KernelIdeal.main_call24_v1)) (Φ₂ (Proc.devRef .tc Cert.ReferenceIdeal.main_call24_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 1) rfl) :) e38
  have e40 : @Eq ((⟨Cert.KernelIdeal.S131072, .i32⟩ : BufTy).Contents (Elt F)) (Φ₁ (Proc.devRef .tc Cert.KernelIdeal.main_call24_v2)) (Φ₂ (Proc.devRef .tc Cert.ReferenceIdeal.main_call24_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 2) rfl) :) e39 e35
  have e41 : @Eq ((⟨Cert.KernelIdeal.S_, .i32⟩ : BufTy).Contents (Elt F)) (Φ₁ (Proc.devRef .tc Cert.KernelIdeal.main_call24_v3)) (Φ₂ (Proc.devRef .tc Cert.ReferenceIdeal.main_call24_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 3) rfl) :) e37
  have e42 : @Eq ((⟨Cert.KernelIdeal.S131072, .i32⟩ : BufTy).Contents (Elt F)) (Φ₁ (Proc.devRef .tc Cert.KernelIdeal.main_call24_v4)) (Φ₂ (Proc.devRef .tc Cert.ReferenceIdeal.main_call24_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 4) rfl) :) e41
  have e43 : @Eq ((⟨Cert.KernelIdeal.S131072, .i32⟩ : BufTy).Contents (Elt F)) (Φ₁ (Proc.devRef .tc Cert.KernelIdeal.main_v811)) (Φ₂ (Proc.devRef .tc Cert.ReferenceIdeal.main_v816)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 5) rfl) :) e42 e40
  have e44 : @Eq ((⟨Cert.KernelIdeal.S_, .i32⟩ : BufTy).Contents (Elt F)) (Φ₁ (Proc.devRef .tc Cert.KernelIdeal.main_c_262)) (Φ₂ (Proc.devRef .tc Cert.ReferenceIdeal.main_c_262)) := step0 (β := ((⟨Cert.KernelIdeal.S_, .i32⟩ : BufTy).Contents (Elt F))) (eq0 (at_ fa2 (i := 0) rfl) :) (eq0 (at_ fb1 (i := 6) rfl) :)
  have e45 : @Eq ((⟨Cert.KernelIdeal.S131072, .i32⟩ : BufTy).Contents (Elt F)) (Φ₁ (Proc.devRef .tc Cert.KernelIdeal.main_v812)) (Φ₂ (Proc.devRef .tc Cert.ReferenceIdeal.main_v817)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 7) rfl) :) e44
  have e46 : @Eq ((⟨Cert.KernelIdeal.S131072, .i32⟩ : BufTy).Contents (Elt F)) (Φ₁ (Proc.devRef .tc Cert.KernelIdeal.main_v813)) (Φ₂ (Proc.devRef .tc Cert.ReferenceIdeal.main_v818)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 8) rfl) :) e43 e45
  have e47 : @Eq ((⟨Cert.KernelIdeal.S_, .i32⟩ : BufTy).Contents (Elt F)) (Φ₁ (Proc.devRef .tc Cert.KernelIdeal.main_c_263)) (Φ₂ (Proc.devRef .tc Cert.ReferenceIdeal.main_c_263)) := step0 (β := ((⟨Cert.KernelIdeal.S_, .i32⟩ : BufTy).Contents (Elt F))) (eq0 (at_ fa2 (i := 3) rfl) :) (eq0 (at_ fb1 (i := 9) rfl) :)
  have e48 : @Eq ((⟨Cert.KernelIdeal.S_, .i32⟩ : BufTy).Contents (Elt F)) (Φ₁ (Proc.devRef .tc Cert.KernelIdeal.main_c_264)) (Φ₂ (Proc.devRef .tc Cert.ReferenceIdeal.main_c_264)) := step0 (β := ((⟨Cert.KernelIdeal.S_, .i32⟩ : BufTy).Contents (Elt F))) (eq0 (at_ fa2 (i := 4) rfl) :) (eq0 (at_ fb1 (i := 10) rfl) :)
  have e49 : @Eq ((⟨Cert.KernelIdeal.S_, .i32⟩ : BufTy).Contents (Elt F)) (Φ₁ (Proc.devRef .tc Cert.KernelIdeal.main_call25_v0)) (Φ₂ (Proc.devRef .tc Cert.ReferenceIdeal.main_call25_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 11) rfl) :) e47
  have e50 : @Eq ((⟨Cert.KernelIdeal.S131072, .i32⟩ : BufTy).Contents (Elt F)) (Φ₁ (Proc.devRef .tc Cert.KernelIdeal.main_call25_v1)) (Φ₂ (Proc.devRef .tc Cert.ReferenceIdeal.main_call25_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 12) rfl) :) e49
  have e51 : @Eq ((⟨Cert.KernelIdeal.S131072, .i32⟩ : BufTy).Contents (Elt F)) (Φ₁ (Proc.devRef .tc Cert.KernelIdeal.main_call25_v2)) (Φ₂ (Proc.devRef .tc Cert.ReferenceIdeal.main_call25_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 13) rfl) :) e50 e46
  have e52 : @Eq ((⟨Cert.KernelIdeal.S_, .i32⟩ : BufTy).Contents (Elt F)) (Φ₁ (Proc.devRef .tc Cert.KernelIdeal.main_call25_v3)) (Φ₂ (Proc.devRef .tc Cert.ReferenceIdeal.main_call25_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 14) rfl) :) e48
  have e53 : @Eq ((⟨Cert.KernelIdeal.S131072, .i32⟩ : BufTy).Contents (Elt F)) (Φ₁ (Proc.devRef .tc Cert.KernelIdeal.main_call25_v4)) (Φ₂ (Proc.devRef .tc Cert.ReferenceIdeal.main_call25_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 15) rfl) :) e52
  have e54 : @Eq ((⟨Cert.KernelIdeal.S131072, .i32⟩ : BufTy).Contents (Elt F)) (Φ₁ (Proc.devRef .tc Cert.KernelIdeal.main_v814)) (Φ₂ (Proc.devRef .tc Cert.ReferenceIdeal.main_v819)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 16) rfl) :) e53 e51
  have e55 : @Eq ((⟨Cert.KernelIdeal.S131072, .i32⟩ : BufTy).Contents (Elt F)) (Φ₁ (Proc.devRef .tc Cert.KernelIdeal.main_v815)) (Φ₂ (Proc.devRef .tc Cert.ReferenceIdeal.main_v820)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 17) rfl) :) e32
  have e56 : @Eq ((⟨Cert.KernelIdeal.S_, .i32⟩ : BufTy).Contents (Elt F)) (Φ₁ (Proc.devRef .tc Cert.KernelIdeal.main_c_265)) (Φ₂ (Proc.devRef .tc Cert.ReferenceIdeal.main_c_265)) := step0 (β := ((⟨Cert.KernelIdeal.S_, .i32⟩ : BufTy).Contents (Elt F))) (eq0 (at_ fa4 (i := 1) rfl) :) (eq0 (at_ fb1 (i := 18) rfl) :)
  have e57 : @Eq ((⟨Cert.KernelIdeal.S_, .i32⟩ : BufTy).Contents (Elt F)) (Φ₁ (Proc.devRef .tc Cert.KernelIdeal.main_c_266)) (Φ₂ (Proc.devRef .tc Cert.ReferenceIdeal.main_c_266)) := step0 (β := ((⟨Cert.KernelIdeal.S_, .i32⟩ : BufTy).Contents (Elt F))) (eq0 (at_ fa4 (i := 2) rfl) :) (eq0 (at_ fb1 (i := 19) rfl) :)
  have e58 : @Eq ((⟨Cert.KernelIdeal.S_, .i32⟩ : BufTy).Contents (Elt F)) (Φ₁ (Proc.devRef .tc Cert.KernelIdeal.main_call26_v0)) (Φ₂ (Proc.devRef .tc Cert.ReferenceIdeal.main_call26_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 20) rfl) :) e56
  have e59 : @Eq ((⟨Cert.KernelIdeal.S131072, .i32⟩ : BufTy).Contents (Elt F)) (Φ₁ (Proc.devRef .tc Cert.KernelIdeal.main_call26_v1)) (Φ₂ (Proc.devRef .tc Cert.ReferenceIdeal.main_call26_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 21) rfl) :) e58
  have e60 : @Eq ((⟨Cert.KernelIdeal.S131072, .i32⟩ : BufTy).Contents (Elt F)) (Φ₁ (Proc.devRef .tc Cert.KernelIdeal.main_call26_v2)) (Φ₂ (Proc.devRef .tc Cert.ReferenceIdeal.main_call26_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 22) rfl) :) e59 e55
  have e61 : @Eq ((⟨Cert.KernelIdeal.S_, .i32⟩ : BufTy).Contents (Elt F)) (Φ₁ (Proc.devRef .tc Cert.KernelIdeal.main_call26_v3)) (Φ₂ (Proc.devRef .tc Cert.ReferenceIdeal.main_call26_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 23) rfl) :) e57
  have e62 : @Eq ((⟨Cert.KernelIdeal.S131072, .i32⟩ : BufTy).Contents (Elt F)) (Φ₁ (Proc.devRef .tc Cert.KernelIdeal.main_call26_v4)) (Φ₂ (Proc.devRef .tc Cert.ReferenceIdeal.main_call26_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 24) rfl) :) e61
  have e63 : @Eq ((⟨Cert.KernelIdeal.S131072, .i32⟩ : BufTy).Contents (Elt F)) (Φ₁ (Proc.devRef .tc Cert.KernelIdeal.main_v816)) (Φ₂ (Proc.devRef .tc Cert.ReferenceIdeal.main_v821)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 25) rfl) :) e62 e60
  have e64 : @Eq ((⟨Cert.KernelIdeal.S_, .i32⟩ : BufTy).Contents (Elt F)) (Φ₁ (Proc.devRef .tc Cert.KernelIdeal.main_c_267)) (Φ₂ (Proc.devRef .tc Cert.ReferenceIdeal.main_c_267)) := step0 (β := ((⟨Cert.KernelIdeal.S_, .i32⟩ : BufTy).Contents (Elt F))) (eq0 (at_ fa6 (i := 0) rfl) :) (eq0 (at_ fb1 (i := 26) rfl) :)
  have e65 : @Eq ((⟨Cert.KernelIdeal.S131072, .i32⟩ : BufTy).Contents (Elt F)) (Φ₁ (Proc.devRef .tc Cert.KernelIdeal.main_v817)) (Φ₂ (Proc.devRef .tc Cert.ReferenceIdeal.main_v822)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 27) rfl) :) e64
  have e66 : @Eq ((⟨Cert.KernelIdeal.S131072, .i32⟩ : BufTy).Contents (Elt F)) (Φ₁ (Proc.devRef .tc Cert.KernelIdeal.main_v818)) (Φ₂ (Proc.devRef .tc Cert.ReferenceIdeal.main_v823)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 28) rfl) :) e63 e65
  have e67 : @Eq ((⟨Cert.KernelIdeal.S_, .i32⟩ : BufTy).Contents (Elt F)) (Φ₁ (Proc.devRef .tc Cert.KernelIdeal.main_c_268)) (Φ₂ (Proc.devRef .tc Cert.ReferenceIdeal.main_c_268)) := step0 (β := ((⟨Cert.KernelIdeal.S_, .i32⟩ : BufTy).Contents (Elt F))) (eq0 (at_ fa6 (i := 3) rfl) :) (eq0 (at_ fb1 (i := 29) rfl) :)
  have e68 : @Eq ((⟨Cert.KernelIdeal.S_, .i32⟩ : BufTy).Contents (Elt F)) (Φ₁ (Proc.devRef .tc Cert.KernelIdeal.main_c_269)) (Φ₂ (Proc.devRef .tc Cert.ReferenceIdeal.main_c_269)) := step0 (β := ((⟨Cert.KernelIdeal.S_, .i32⟩ : BufTy).Contents (Elt F))) (eq0 (at_ fa6 (i := 4) rfl) :) (eq0 (at_ fb1 (i := 30) rfl) :)
  have e69 : @Eq ((⟨Cert.KernelIdeal.S_, .i32⟩ : BufTy).Contents (Elt F)) (Φ₁ (Proc.devRef .tc Cert.KernelIdeal.main_call27_v0)) (Φ₂ (Proc.devRef .tc Cert.ReferenceIdeal.main_call27_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 31) rfl) :) e67
  have e70 : @Eq ((⟨Cert.KernelIdeal.S131072, .i32⟩ : BufTy).Contents (Elt F)) (Φ₁ (Proc.devRef .tc Cert.KernelIdeal.main_call27_v1)) (Φ₂ (Proc.devRef .tc Cert.ReferenceIdeal.main_call27_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 32) rfl) :) e69
  have e71 : @Eq ((⟨Cert.KernelIdeal.S131072, .i32⟩ : BufTy).Contents (Elt F)) (Φ₁ (Proc.devRef .tc Cert.KernelIdeal.main_call27_v2)) (Φ₂ (Proc.devRef .tc Cert.ReferenceIdeal.main_call27_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 33) rfl) :) e70 e66
  have e72 : @Eq ((⟨Cert.KernelIdeal.S_, .i32⟩ : BufTy).Contents (Elt F)) (Φ₁ (Proc.devRef .tc Cert.KernelIdeal.main_call27_v3)) (Φ₂ (Proc.devRef .tc Cert.ReferenceIdeal.main_call27_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 34) rfl) :) e68
  have e73 : @Eq ((⟨Cert.KernelIdeal.S131072, .i32⟩ : BufTy).Contents (Elt F)) (Φ₁ (Proc.devRef .tc Cert.KernelIdeal.main_call27_v4)) (Φ₂ (Proc.devRef .tc Cert.ReferenceIdeal.main_call27_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 35) rfl) :) e72
  have e74 : @Eq ((⟨Cert.KernelIdeal.S131072, .i32⟩ : BufTy).Contents (Elt F)) (Φ₁ (Proc.devRef .tc Cert.KernelIdeal.main_v819)) (Φ₂ (Proc.devRef .tc Cert.ReferenceIdeal.main_v824)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 36) rfl) :) e73 e71
  have e75 : @Eq ((⟨Cert.KernelIdeal.S_, .i32⟩ : BufTy).Contents (Elt F)) (Φ₁ (Proc.devRef .tc Cert.KernelIdeal.main_c_270)) (Φ₂ (Proc.devRef .tc Cert.ReferenceIdeal.main_c_270)) := step0 (β := ((⟨Cert.KernelIdeal.S_, .i32⟩ : BufTy).Contents (Elt F))) (eq0 (at_ fa8 (i := 0) rfl) :) (eq0 (at_ fb1 (i := 37) rfl) :)
  have e76 : @Eq ((⟨Cert.KernelIdeal.S131072, .i32⟩ : BufTy).Contents (Elt F)) (Φ₁ (Proc.devRef .tc Cert.KernelIdeal.main_v820)) (Φ₂ (Proc.devRef .tc Cert.ReferenceIdeal.main_v825)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 38) rfl) :) e75
  have e77 : @Eq ((⟨Cert.KernelIdeal.S131072, .i1⟩ : BufTy).Contents (Elt F)) (Φ₁ (Proc.devRef .tc Cert.KernelIdeal.main_v821)) (Φ₂ (Proc.devRef .tc Cert.ReferenceIdeal.main_v826)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 39) rfl) :) e63 e76
  have e78 : @Eq ((⟨Cert.KernelIdeal.S_, .i32⟩ : BufTy).Contents (Elt F)) (Φ₁ (Proc.devRef .tc Cert.KernelIdeal.main_c_271)) (Φ₂ (Proc.devRef .tc Cert.ReferenceIdeal.main_c_271)) := step0 (β := ((⟨Cert.KernelIdeal.S_, .i32⟩ : BufTy).Contents (Elt F))) (eq0 (at_ fa8 (i := 3) rfl) :) (eq0 (at_ fb1 (i := 40) rfl) :)
  have e79 : @Eq ((⟨Cert.KernelIdeal.S131072, .i32⟩ : BufTy).Contents (Elt F)) (Φ₁ (Proc.devRef .tc Cert.KernelIdeal.main_v822)) (Φ₂ (Proc.devRef .tc Cert.ReferenceIdeal.main_v827)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 41) rfl) :) e78
  have e80 : @Eq ((⟨Cert.KernelIdeal.S131072, .i32⟩ : BufTy).Contents (Elt F)) (Φ₁ (Proc.devRef .tc Cert.KernelIdeal.main_v823)) (Φ₂ (Proc.devRef .tc Cert.ReferenceIdeal.main_v828)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 42) rfl) :) e63 e79
  have e81 : @Eq ((⟨Cert.KernelIdeal.S131072, .i32⟩ : BufTy).Contents (Elt F)) (Φ₁ (Proc.devRef .tc Cert.KernelIdeal.main_v824)) (Φ₂ (Proc.devRef .tc Cert.ReferenceIdeal.main_v829)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 43) rfl) :) e77 e80 e63
  have e82 : @Eq ((⟨Cert.KernelIdeal.S_, .i32⟩ : BufTy).Contents (Elt F)) (Φ₁ (Proc.devRef .tc Cert.KernelIdeal.main_c_272)) (Φ₂ (Proc.devRef .tc Cert.ReferenceIdeal.main_c_272)) := step0 (β := ((⟨Cert.KernelIdeal.S_, .i32⟩ : BufTy).Contents (Elt F))) (eq0 (at_ fa8 (i := 7) rfl) :) (eq0 (at_ fb1 (i := 44) rfl) :)
  have e83 : @Eq ((⟨Cert.KernelIdeal.S131072, .i32⟩ : BufTy).Contents (Elt F)) (Φ₁ (Proc.devRef .tc Cert.KernelIdeal.main_v825)) (Φ₂ (Proc.devRef .tc Cert.ReferenceIdeal.main_v830)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 45) rfl) :) e82
  have e84 : @Eq ((⟨Cert.KernelIdeal.S131072, .i1⟩ : BufTy).Contents (Elt F)) (Φ₁ (Proc.devRef .tc Cert.KernelIdeal.main_v826)) (Φ₂ (Proc.devRef .tc Cert.ReferenceIdeal.main_v831)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 46) rfl) :) e43 e83
  have e85 : @Eq ((⟨Cert.KernelIdeal.S_, .i32⟩ : BufTy).Contents (Elt F)) (Φ₁ (Proc.devRef .tc Cert.KernelIdeal.main_c_273)) (Φ₂ (Proc.devRef .tc Cert.ReferenceIdeal.main_c_273)) := step0 (β := ((⟨Cert.KernelIdeal.S_, .i32⟩ : BufTy).Contents (Elt F))) (eq0 (at_ fa8 (i := 10) rfl) :) (eq0 (at_ fb1 (i := 47) rfl) :)
  have e86 : @Eq ((⟨Cert.KernelIdeal.S131072, .i32⟩ : BufTy).Contents (Elt F)) (Φ₁ (Proc.devRef .tc Cert.KernelIdeal.main_v827)) (Φ₂ (Proc.devRef .tc Cert.ReferenceIdeal.main_v832)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 48) rfl) :) e85
  have e87 : @Eq ((⟨Cert.KernelIdeal.S131072, .i32⟩ : BufTy).Contents (Elt F)) (Φ₁ (Proc.devRef .tc Cert.KernelIdeal.main_v828)) (Φ₂ (Proc.devRef .tc Cert.ReferenceIdeal.main_v833)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 49) rfl) :) e43 e86
  have e88 : @Eq ((⟨Cert.KernelIdeal.S131072, .i32⟩ : BufTy).Contents (Elt F)) (Φ₁ (Proc.devRef .tc Cert.KernelIdeal.main_v829)) (Φ₂ (Proc.devRef .tc Cert.ReferenceIdeal.main_v834)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 50) rfl) :) e84 e87 e43
  have e89 : @Eq ((⟨Cert.KernelIdeal.S131072x1, .i32⟩ : BufTy).Contents (Elt F)) (Φ₁ (Proc.devRef .tc Cert.KernelIdeal.main_v830)) (Φ₂ (Proc.devRef .tc Cert.ReferenceIdeal.main_v835)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 51) rfl) :) e81
  have e90 : @Eq ((⟨Cert.KernelIdeal.S131072x1, .i32⟩ : BufTy).Contents (Elt F)) (Φ₁ (Proc.devRef .tc Cert.KernelIdeal.main_v831)) (Φ₂ (Proc.devRef .tc Cert.ReferenceIdeal.main_v836)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 52) rfl) :) e88
  have e91 : @Eq ((⟨Cert.KernelIdeal.S131072x2, .i32⟩ : BufTy).Contents (Elt F)) (Φ₁ (Proc.devRef .tc Cert.KernelIdeal.main_v832)) (Φ₂ (Proc.devRef .tc Cert.ReferenceIdeal.main_v837)) := by rw [eq2 (at_ fa8 (i := 16) rfl), eq2 (at_ fb1 (i := 53) rfl), e89, e90] <;> rfl
  have e92 : @Eq ((⟨Cert.KernelIdeal.S32x131072, .f32⟩ : BufTy).Contents (Elt F)) (Φ₁ (Proc.devRef .tc Cert.KernelIdeal.main_v833)) (Φ₂ (Proc.devRef .tc Cert.ReferenceIdeal.main_v838)) := by rw [eq2 (at_ fa8 (i := 17) rfl), eq2 (at_ fb1 (i := 54) rfl), x2, e91] <;> rfl
  have e93 : @Eq ((⟨Cert.KernelIdeal.S_, .i32⟩ : BufTy).Contents (Elt F)) (Φ₁ (Proc.devRef .tc Cert.KernelIdeal.main_c_274)) (Φ₂ (Proc.devRef .tc Cert.ReferenceIdeal.main_c_274)) := step0 (β := ((⟨Cert.KernelIdeal.S_, .i32⟩ : BufTy).Contents (Elt F))) (eq0 (at_ fa8 (i := 18) rfl) :) (eq0 (at_ fb1 (i := 55) rfl) :)
  have e94 : @Eq ((⟨Cert.KernelIdeal.S131072, .i32⟩ : BufTy).Contents (Elt F)) (Φ₁ (Proc.devRef .tc Cert.KernelIdeal.main_v834)) (Φ₂ (Proc.devRef .tc Cert.ReferenceIdeal.main_v839)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 56) rfl) :) e93
  have e95 : @Eq ((⟨Cert.KernelIdeal.S131072, .i1⟩ : BufTy).Contents (Elt F)) (Φ₁ (Proc.devRef .tc Cert.KernelIdeal.main_v835)) (Φ₂ (Proc.devRef .tc Cert.ReferenceIdeal.main_v840)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 57) rfl) :) e63 e94
  have e96 : @Eq ((⟨Cert.KernelIdeal.S_, .i32⟩ : BufTy).Contents (Elt F)) (Φ₁ (Proc.devRef .tc Cert.KernelIdeal.main_c_275)) (Φ₂ (Proc.devRef .tc Cert.ReferenceIdeal.main_c_275)) := step0 (β := ((⟨Cert.KernelIdeal.S_, .i32⟩ : BufTy).Contents (Elt F))) (eq0 (at_ fa8 (i := 21) rfl) :) (eq0 (at_ fb1 (i := 58) rfl) :)
  have e97 : @Eq ((⟨Cert.KernelIdeal.S131072, .i32⟩ : BufTy).Contents (Elt F)) (Φ₁ (Proc.devRef .tc Cert.KernelIdeal.main_v836)) (Φ₂ (Proc.devRef .tc Cert.ReferenceIdeal.main_v841)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 59) rfl) :) e96
  have e98 : @Eq ((⟨Cert.KernelIdeal.S131072, .i32⟩ : BufTy).Contents (Elt F)) (Φ₁ (Proc.devRef .tc Cert.KernelIdeal.main_v837)) (Φ₂ (Proc.devRef .tc Cert.ReferenceIdeal.main_v842)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 60) rfl) :) e63 e97
  have e99 : @Eq ((⟨Cert.KernelIdeal.S131072, .i32⟩ : BufTy).Contents (Elt F)) (Φ₁ (Proc.devRef .tc Cert.KernelIdeal.main_v838)) (Φ₂ (Proc.devRef .tc Cert.ReferenceIdeal.main_v843)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 61) rfl) :) e95 e98 e63
  have e100 : @Eq ((⟨Cert.KernelIdeal.S_, .i32⟩ : BufTy).Contents (Elt F)) (Φ₁ (Proc.devRef .tc Cert.KernelIdeal.main_c_276)) (Φ₂ (Proc.devRef .tc Cert.ReferenceIdeal.main_c_276)) := step0 (β := ((⟨Cert.KernelIdeal.S_, .i32⟩ : BufTy).Contents (Elt F))) (eq0 (at_ fa8 (i := 25) rfl) :) (eq0 (at_ fb1 (i := 62) rfl) :)
  have e101 : @Eq ((⟨Cert.KernelIdeal.S131072, .i32⟩ : BufTy).Contents (Elt F)) (Φ₁ (Proc.devRef .tc Cert.KernelIdeal.main_v839)) (Φ₂ (Proc.devRef .tc Cert.ReferenceIdeal.main_v844)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 63) rfl) :) e100
  have e102 : @Eq ((⟨Cert.KernelIdeal.S131072, .i1⟩ : BufTy).Contents (Elt F)) (Φ₁ (Proc.devRef .tc Cert.KernelIdeal.main_v840)) (Φ₂ (Proc.devRef .tc Cert.ReferenceIdeal.main_v845)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 64) rfl) :) e54 e101
  have e103 : @Eq ((⟨Cert.KernelIdeal.S_, .i32⟩ : BufTy).Contents (Elt F)) (Φ₁ (Proc.devRef .tc Cert.KernelIdeal.main_c_277)) (Φ₂ (Proc.devRef .tc Cert.ReferenceIdeal.main_c_277)) := step0 (β := ((⟨Cert.KernelIdeal.S_, .i32⟩ : BufTy).Contents (Elt F))) (eq0 (at_ fa8 (i := 28) rfl) :) (eq0 (at_ fb1 (i := 65) rfl) :)
  have e104 : @Eq ((⟨Cert.KernelIdeal.S131072, .i32⟩ : BufTy).Contents (Elt F)) (Φ₁ (Proc.devRef .tc Cert.KernelIdeal.main_v841)) (Φ₂ (Proc.devRef .tc Cert.ReferenceIdeal.main_v846)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 66) rfl) :) e103
  have e105 : @Eq ((⟨Cert.KernelIdeal.S131072, .i32⟩ : BufTy).Contents (Elt F)) (Φ₁ (Proc.devRef .tc Cert.KernelIdeal.main_v842)) (Φ₂ (Proc.devRef .tc Cert.ReferenceIdeal.main_v847)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 67) rfl) :) e54 e104
  have e106 : @Eq ((⟨Cert.KernelIdeal.S131072, .i32⟩ : BufTy).Contents (Elt F)) (Φ₁ (Proc.devRef .tc Cert.KernelIdeal.main_v843)) (Φ₂ (Proc.devRef .tc Cert.ReferenceIdeal.main_v848)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 68) rfl) :) e102 e105 e54
  have e107 : @Eq ((⟨Cert.KernelIdeal.S131072x1, .i32⟩ : BufTy).Contents (Elt F)) (Φ₁ (Proc.devRef .tc Cert.KernelIdeal.main_v844)) (Φ₂ (Proc.devRef .tc Cert.ReferenceIdeal.main_v849)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 69) rfl) :) e99
  have e108 : @Eq ((⟨Cert.KernelIdeal.S131072x1, .i32⟩ : BufTy).Contents (Elt F)) (Φ₁ (Proc.devRef .tc Cert.KernelIdeal.main_v845)) (Φ₂ (Proc.devRef .tc Cert.ReferenceIdeal.main_v850)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 70) rfl) :) e106
  have e109 : @Eq ((⟨Cert.KernelIdeal.S131072x2, .i32⟩ : BufTy).Contents (Elt F)) (Φ₁ (Proc.devRef .tc Cert.KernelIdeal.main_v846)) (Φ₂ (Proc.devRef .tc Cert.ReferenceIdeal.main_v851)) := by rw [eq2 (at_ fa8 (i := 34) rfl), eq2 (at_ fb1 (i := 71) rfl), e107, e108] <;> rfl
  have e110 : @Eq ((⟨Cert.KernelIdeal.S32x131072, .f32⟩ : BufTy).Contents (Elt F)) (Φ₁ (Proc.devRef .tc Cert.KernelIdeal.main_v847)) (Φ₂ (Proc.devRef .tc Cert.ReferenceIdeal.main_v852)) := by rw [eq2 (at_ fa8 (i := 35) rfl), eq2 (at_ fb1 (i := 72) rfl), x2, e109] <;> rfl
  have e111 : @Eq ((⟨Cert.KernelIdeal.S_, .i32⟩ : BufTy).Contents (Elt F)) (Φ₁ (Proc.devRef .tc Cert.KernelIdeal.main_c_278)) (Φ₂ (Proc.devRef .tc Cert.ReferenceIdeal.main_c_278)) := step0 (β := ((⟨Cert.KernelIdeal.S_, .i32⟩ : BufTy).Contents (Elt F))) (eq0 (at_ fa8 (i := 36) rfl) :) (eq0 (at_ fb1 (i := 73) rfl) :)
  have e112 : @Eq ((⟨Cert.KernelIdeal.S131072, .i32⟩ : BufTy).Contents (Elt F)) (Φ₁ (Proc.devRef .tc Cert.KernelIdeal.main_v848)) (Φ₂ (Proc.devRef .tc Cert.ReferenceIdeal.main_v853)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 74) rfl) :) e111
  have e113 : @Eq ((⟨Cert.KernelIdeal.S131072, .i1⟩ : BufTy).Contents (Elt F)) (Φ₁ (Proc.devRef .tc Cert.KernelIdeal.main_v849)) (Φ₂ (Proc.devRef .tc Cert.ReferenceIdeal.main_v854)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 75) rfl) :) e74 e112
  have e114 : @Eq ((⟨Cert.KernelIdeal.S_, .i32⟩ : BufTy).Contents (Elt F)) (Φ₁ (Proc.devRef .tc Cert.KernelIdeal.main_c_279)) (Φ₂ (Proc.devRef .tc Cert.ReferenceIdeal.main_c_279)) := step0 (β := ((⟨Cert.KernelIdeal.S_, .i32⟩ : BufTy).Contents (Elt F))) (eq0 (at_ fa8 (i := 39) rfl) :) (eq0 (at_ fb1 (i := 76) rfl) :)
  have e115 : @Eq ((⟨Cert.KernelIdeal.S131072, .i32⟩ : BufTy).Contents (Elt F)) (Φ₁ (Proc.devRef .tc Cert.KernelIdeal.main_v850)) (Φ₂ (Proc.devRef .tc Cert.ReferenceIdeal.main_v855)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 77) rfl) :) e114
  have e116 : @Eq ((⟨Cert.KernelIdeal.S131072, .i32⟩ : BufTy).Contents (Elt F)) (Φ₁ (Proc.devRef .tc Cert.KernelIdeal.main_v851)) (Φ₂ (Proc.devRef .tc Cert.ReferenceIdeal.main_v856)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 78) rfl) :) e74 e115
  have e117 : @Eq ((⟨Cert.KernelIdeal.S131072, .i32⟩ : BufTy).Contents (Elt F)) (Φ₁ (Proc.devRef .tc Cert.KernelIdeal.main_v852)) (Φ₂ (Proc.devRef .tc Cert.ReferenceIdeal.main_v857)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 79) rfl) :) e113 e116 e74
  have e118 : @Eq ((⟨Cert.KernelIdeal.S_, .i32⟩ : BufTy).Contents (Elt F)) (Φ₁ (Proc.devRef .tc Cert.KernelIdeal.main_c_280)) (Φ₂ (Proc.devRef .tc Cert.ReferenceIdeal.main_c_280)) := step0 (β := ((⟨Cert.KernelIdeal.S_, .i32⟩ : BufTy).Contents (Elt F))) (eq0 (at_ fa8 (i := 43) rfl) :) (eq0 (at_ fb2 (i := 0) rfl) :)
  have e119 : @Eq ((⟨Cert.KernelIdeal.S131072, .i32⟩ : BufTy).Contents (Elt F)) (Φ₁ (Proc.devRef .tc Cert.KernelIdeal.main_v853)) (Φ₂ (Proc.devRef .tc Cert.ReferenceIdeal.main_v858)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 1) rfl) :) e118
  have e120 : @Eq ((⟨Cert.KernelIdeal.S131072, .i1⟩ : BufTy).Contents (Elt F)) (Φ₁ (Proc.devRef .tc Cert.KernelIdeal.main_v854)) (Φ₂ (Proc.devRef .tc Cert.ReferenceIdeal.main_v859)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 2) rfl) :) e43 e119
  have e121 : @Eq ((⟨Cert.KernelIdeal.S_, .i32⟩ : BufTy).Contents (Elt F)) (Φ₁ (Proc.devRef .tc Cert.KernelIdeal.main_c_281)) (Φ₂ (Proc.devRef .tc Cert.ReferenceIdeal.main_c_281)) := step0 (β := ((⟨Cert.KernelIdeal.S_, .i32⟩ : BufTy).Contents (Elt F))) (eq0 (at_ fa8 (i := 46) rfl) :) (eq0 (at_ fb2 (i := 3) rfl) :)
  have e122 : @Eq ((⟨Cert.KernelIdeal.S131072, .i32⟩ : BufTy).Contents (Elt F)) (Φ₁ (Proc.devRef .tc Cert.KernelIdeal.main_v855)) (Φ₂ (Proc.devRef .tc Cert.ReferenceIdeal.main_v860)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 4) rfl) :) e121
  have e123 : @Eq ((⟨Cert.KernelIdeal.S131072, .i32⟩ : BufTy).Contents (Elt F)) (Φ₁ (Proc.devRef .tc Cert.KernelIdeal.main_v856)) (Φ₂ (Proc.devRef .tc Cert.ReferenceIdeal.main_v861)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 5) rfl) :) e43 e122
  have e124 : @Eq ((⟨Cert.KernelIdeal.S131072, .i32⟩ : BufTy).Contents (Elt F)) (Φ₁ (Proc.devRef .tc Cert.KernelIdeal.main_v857)) (Φ₂ (Proc.devRef .tc Cert.ReferenceIdeal.main_v862)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 6) rfl) :) e120 e123 e43
  have e125 : @Eq ((⟨Cert.KernelIdeal.S131072x1, .i32⟩ : BufTy).Contents (Elt F)) (Φ₁ (Proc.devRef .tc Cert.KernelIdeal.main_v858)) (Φ₂ (Proc.devRef .tc Cert.ReferenceIdeal.main_v863)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 7) rfl) :) e117
  have e126 : @Eq ((⟨Cert.KernelIdeal.S131072x1, .i32⟩ : BufTy).Contents (Elt F)) (Φ₁ (Proc.devRef .tc Cert.KernelIdeal.main_v859)) (Φ₂ (Proc.devRef .tc Cert.ReferenceIdeal.main_v864)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 8) rfl) :) e124
  have e127 : @Eq ((⟨Cert.KernelIdeal.S131072x2, .i32⟩ : BufTy).Contents (Elt F)) (Φ₁ (Proc.devRef .tc Cert.KernelIdeal.main_v860)) (Φ₂ (Proc.devRef .tc Cert.ReferenceIdeal.main_v865)) := by rw [eq2 (at_ fa8 (i := 52) rfl), eq2 (at_ fb2 (i := 9) rfl), e125, e126] <;> rfl
  have e128 : @Eq ((⟨Cert.KernelIdeal.S32x131072, .f32⟩ : BufTy).Contents (Elt F)) (Φ₁ (Proc.devRef .tc Cert.KernelIdeal.main_v861)) (Φ₂ (Proc.devRef .tc Cert.ReferenceIdeal.main_v866)) := by rw [eq2 (at_ fa8 (i := 53) rfl), eq2 (at_ fb2 (i := 10) rfl), x2, e127] <;> rfl
  have e129 : @Eq ((⟨Cert.KernelIdeal.S_, .i32⟩ : BufTy).Contents (Elt F)) (Φ₁ (Proc.devRef .tc Cert.KernelIdeal.main_c_282)) (Φ₂ (Proc.devRef .tc Cert.ReferenceIdeal.main_c_282)) := step0 (β := ((⟨Cert.KernelIdeal.S_, .i32⟩ : BufTy).Contents (Elt F))) (eq0 (at_ fa8 (i := 54) rfl) :) (eq0 (at_ fb2 (i := 11) rfl) :)
  have e130 : @Eq ((⟨Cert.KernelIdeal.S131072, .i32⟩ : BufTy).Contents (Elt F)) (Φ₁ (Proc.devRef .tc Cert.KernelIdeal.main_v862)) (Φ₂ (Proc.devRef .tc Cert.ReferenceIdeal.main_v867)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 12) rfl) :) e129
  have e131 : @Eq ((⟨Cert.KernelIdeal.S131072, .i1⟩ : BufTy).Contents (Elt F)) (Φ₁ (Proc.devRef .tc Cert.KernelIdeal.main_v863)) (Φ₂ (Proc.devRef .tc Cert.ReferenceIdeal.main_v868)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 13) rfl) :) e74 e130
  have e132 : @Eq ((⟨Cert.KernelIdeal.S_, .i32⟩ : BufTy).Contents (Elt F)) (Φ₁ (Proc.devRef .tc Cert.KernelIdeal.main_c_283)) (Φ₂ (Proc.devRef .tc Cert.ReferenceIdeal.main_c_283)) := step0 (β := ((⟨Cert.KernelIdeal.S_, .i32⟩ : BufTy).Contents (Elt F))) (eq0 (at_ fa8 (i := 57) rfl) :) (eq0 (at_ fb2 (i := 14) rfl) :)
  have e133 : @Eq ((⟨Cert.KernelIdeal.S131072, .i32⟩ : BufTy).Contents (Elt F)) (Φ₁ (Proc.devRef .tc Cert.KernelIdeal.main_v864)) (Φ₂ (Proc.devRef .tc Cert.ReferenceIdeal.main_v869)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 15) rfl) :) e132
  have e134 : @Eq ((⟨Cert.KernelIdeal.S131072, .i32⟩ : BufTy).Contents (Elt F)) (Φ₁ (Proc.devRef .tc Cert.KernelIdeal.main_v865)) (Φ₂ (Proc.devRef .tc Cert.ReferenceIdeal.main_v870)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 16) rfl) :) e74 e133
  have e135 : @Eq ((⟨Cert.KernelIdeal.S131072, .i32⟩ : BufTy).Contents (Elt F)) (Φ₁ (Proc.devRef .tc Cert.KernelIdeal.main_v866)) (Φ₂ (Proc.devRef .tc Cert.ReferenceIdeal.main_v871)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 17) rfl) :) e131 e134 e74
  have e136 : @Eq ((⟨Cert.KernelIdeal.S_, .i32⟩ : BufTy).Contents (Elt F)) (Φ₁ (Proc.devRef .tc Cert.KernelIdeal.main_c_284)) (Φ₂ (Proc.devRef .tc Cert.ReferenceIdeal.main_c_284)) := step0 (β := ((⟨Cert.KernelIdeal.S_, .i32⟩ : BufTy).Contents (Elt F))) (eq0 (at_ fa8 (i := 61) rfl) :) (eq0 (at_ fb2 (i := 18) rfl) :)
  have e137 : @Eq ((⟨Cert.KernelIdeal.S131072, .i32⟩ : BufTy).Contents (Elt F)) (Φ₁ (Proc.devRef .tc Cert.KernelIdeal.main_v867)) (Φ₂ (Proc.devRef .tc Cert.ReferenceIdeal.main_v872)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 19) rfl) :) e136
  have e138 : @Eq ((⟨Cert.KernelIdeal.S131072, .i1⟩ : BufTy).Contents (Elt F)) (Φ₁ (Proc.devRef .tc Cert.KernelIdeal.main_v868)) (Φ₂ (Proc.devRef .tc Cert.ReferenceIdeal.main_v873)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 20) rfl) :) e54 e137
  have e139 : @Eq ((⟨Cert.KernelIdeal.S_, .i32⟩ : BufTy).Contents (Elt F)) (Φ₁ (Proc.devRef .tc Cert.KernelIdeal.main_c_285)) (Φ₂ (Proc.devRef .tc Cert.ReferenceIdeal.main_c_285)) := step0 (β := ((⟨Cert.KernelIdeal.S_, .i32⟩ : BufTy).Contents (Elt F))) (eq0 (at_ fa8 (i := 64) rfl) :) (eq0 (at_ fb2 (i := 21) rfl) :)
  have e140 : @Eq ((⟨Cert.KernelIdeal.S131072, .i32⟩ : BufTy).Contents (Elt F)) (Φ₁ (Proc.devRef .tc Cert.KernelIdeal.main_v869)) (Φ₂ (Proc.devRef .tc Cert.ReferenceIdeal.main_v874)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 22) rfl) :) e139
  have e141 : @Eq ((⟨Cert.KernelIdeal.S131072, .i32⟩ : BufTy).Contents (Elt F)) (Φ₁ (Proc.devRef .tc Cert.KernelIdeal.main_v870)) (Φ₂ (Proc.devRef .tc Cert.ReferenceIdeal.main_v875)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 23) rfl) :) e54 e140
  have e142 : @Eq ((⟨Cert.KernelIdeal.S131072, .i32⟩ : BufTy).Contents (Elt F)) (Φ₁ (Proc.devRef .tc Cert.KernelIdeal.main_v871)) (Φ₂ (Proc.devRef .tc Cert.ReferenceIdeal.main_v876)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 24) rfl) :) e138 e141 e54
  have e143 : @Eq ((⟨Cert.KernelIdeal.S131072x1, .i32⟩ : BufTy).Contents (Elt F)) (Φ₁ (Proc.devRef .tc Cert.KernelIdeal.main_v872)) (Φ₂ (Proc.devRef .tc Cert.ReferenceIdeal.main_v877)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 25) rfl) :) e135
  have e144 : @Eq ((⟨Cert.KernelIdeal.S131072x1, .i32⟩ : BufTy).Contents (Elt F)) (Φ₁ (Proc.devRef .tc Cert.KernelIdeal.main_v873)) (Φ₂ (Proc.devRef .tc Cert.ReferenceIdeal.main_v878)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 26) rfl) :) e142
  have e145 : @Eq ((⟨Cert.KernelIdeal.S131072x2, .i32⟩ : BufTy).Contents (Elt F)) (Φ₁ (Proc.devRef .tc Cert.KernelIdeal.main_v874)) (Φ₂ (Proc.devRef .tc Cert.ReferenceIdeal.main_v879)) := by rw [eq2 (at_ fa8 (i := 70) rfl), eq2 (at_ fb2 (i := 27) rfl), e143, e144] <;> rfl
  have e146 : @Eq ((⟨Cert.KernelIdeal.S32x131072, .f32⟩ : BufTy).Contents (Elt F)) (Φ₁ (Proc.devRef .tc Cert.KernelIdeal.main_v875)) (Φ₂ (Proc.devRef .tc Cert.ReferenceIdeal.main_v880)) := by rw [eq2 (at_ fa8 (i := 71) rfl), eq2 (at_ fb2 (i := 28) rfl), x2, e145] <;> rfl
  have e147 : @Eq ((⟨Cert.KernelIdeal.S_, .f32⟩ : BufTy).Contents (Elt F)) (Φ₁ (Proc.devRef .tc Cert.KernelIdeal.main_cst_286)) (Φ₂ (Proc.devRef .tc Cert.ReferenceIdeal.main_cst_286)) := step0 (β := ((⟨Cert.KernelIdeal.S_, .f32⟩ : BufTy).Contents (Elt F))) (eq0 (at_ fa8 (i := 72) rfl) :) (eq0 (at_ fb2 (i := 29) rfl) :)
  have e148 : @Eq ((⟨Cert.KernelIdeal.S131072, .f32⟩ : BufTy).Contents (Elt F)) (Φ₁ (Proc.devRef .tc Cert.KernelIdeal.main_v876)) (Φ₂ (Proc.devRef .tc Cert.ReferenceIdeal.main_v881)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 30) rfl) :) e147
  have e149 : @Eq ((⟨Cert.KernelIdeal.S131072, .f32⟩ : BufTy).Contents (Elt F)) (Φ₁ (Proc.devRef .tc Cert.KernelIdeal.main_v877)) (Φ₂ (Proc.devRef .tc Cert.ReferenceIdeal.main_v882)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 31) rfl) :) e148 e33
  have e150 : @Eq ((⟨Cert.KernelIdeal.S1x131072, .f32⟩ : BufTy).Contents (Elt F)) (Φ₁ (Proc.devRef .tc Cert.KernelIdeal.main_v878)) (Φ₂ (Proc.devRef .tc Cert.ReferenceIdeal.main_v883)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 32) rfl) :) e149
  have e151 : @Eq ((⟨Cert.KernelIdeal.S32x131072, .f32⟩ : BufTy).Contents (Elt F)) (Φ₁ (Proc.devRef .tc Cert.KernelIdeal.main_v879)) (Φ₂ (Proc.devRef .tc Cert.ReferenceIdeal.main_v884)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 33) rfl) :) e150
  have e152 : @Eq ((⟨Cert.KernelIdeal.S32x131072, .f32⟩ : BufTy).Contents (Elt F)) (Φ₁ (Proc.devRef .tc Cert.KernelIdeal.main_v880)) (Φ₂ (Proc.devRef .tc Cert.ReferenceIdeal.main_v885)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 34) rfl) :) e92 e151
  have e153 : @Eq ((⟨Cert.KernelIdeal.S_, .f32⟩ : BufTy).Contents (Elt F)) (Φ₁ (Proc.devRef .tc Cert.KernelIdeal.main_cst_287)) (Φ₂ (Proc.devRef .tc Cert.ReferenceIdeal.main_cst_287)) := step0 (β := ((⟨Cert.KernelIdeal.S_, .f32⟩ : BufTy).Contents (Elt F))) (eq0 (at_ fa8 (i := 78) rfl) :) (eq0 (at_ fb2 (i := 35) rfl) :)
  have e154 : @Eq ((⟨Cert.KernelIdeal.S131072, .f32⟩ : BufTy).Contents (Elt F)) (Φ₁ (Proc.devRef .tc Cert.KernelIdeal.main_v881)) (Φ₂ (Proc.devRef .tc Cert.ReferenceIdeal.main_v886)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 36) rfl) :) e153
  have e155 : @Eq ((⟨Cert.KernelIdeal.S131072, .f32⟩ : BufTy).Contents (Elt F)) (Φ₁ (Proc.devRef .tc Cert.KernelIdeal.main_v882)) (Φ₂ (Proc.devRef .tc Cert.ReferenceIdeal.main_v887)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 37) rfl) :) e154 e34
  have e156 : @Eq ((⟨Cert.KernelIdeal.S1x131072, .f32⟩ : BufTy).Contents (Elt F)) (Φ₁ (Proc.devRef .tc Cert.KernelIdeal.main_v883)) (Φ₂ (Proc.devRef .tc Cert.ReferenceIdeal.main_v888)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 38) rfl) :) e155
  have e157 : @Eq ((⟨Cert.KernelIdeal.S32x131072, .f32⟩ : BufTy).Contents (Elt F)) (Φ₁ (Proc.devRef .tc Cert.KernelIdeal.main_v884)) (Φ₂ (Proc.devRef .tc Cert.ReferenceIdeal.main_v889)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 39) rfl) :) e156
  have e158 : @Eq ((⟨Cert.KernelIdeal.S32x131072, .f32⟩ : BufTy).Contents (Elt F)) (Φ₁ (Proc.devRef .tc Cert.KernelIdeal.main_v885)) (Φ₂ (Proc.devRef .tc Cert.ReferenceIdeal.main_v890)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 40) rfl) :) e152 e157
  have e159 : @Eq ((⟨Cert.KernelIdeal.S1x131072, .f32⟩ : BufTy).Contents (Elt F)) (Φ₁ (Proc.devRef .tc Cert.KernelIdeal.main_v886)) (Φ₂ (Proc.devRef .tc Cert.ReferenceIdeal.main_v891)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 41) rfl) :) e33
  have e160 : @Eq ((⟨Cert.KernelIdeal.S32x131072, .f32⟩ : BufTy).Contents (Elt F)) (Φ₁ (Proc.devRef .tc Cert.KernelIdeal.main_v887)) (Φ₂ (Proc.devRef .tc Cert.ReferenceIdeal.main_v892)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 42) rfl) :) e159
  have e161 : @Eq ((⟨Cert.KernelIdeal.S32x131072, .f32⟩ : BufTy).Contents (Elt F)) (Φ₁ (Proc.devRef .tc Cert.KernelIdeal.main_v888)) (Φ₂ (Proc.devRef .tc Cert.ReferenceIdeal.main_v893)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 43) rfl) :) e110 e160
  have e162 : @Eq ((⟨Cert.KernelIdeal.S_, .f32⟩ : BufTy).Contents (Elt F)) (Φ₁ (Proc.devRef .tc Cert.KernelIdeal.main_cst_288)) (Φ₂ (Proc.devRef .tc Cert.ReferenceIdeal.main_cst_288)) := step0 (β := ((⟨Cert.KernelIdeal.S_, .f32⟩ : BufTy).Contents (Elt F))) (eq0 (at_ fa8 (i := 87) rfl) :) (eq0 (at_ fb2 (i := 44) rfl) :)
  have e163 : @Eq ((⟨Cert.KernelIdeal.S131072, .f32⟩ : BufTy).Contents (Elt F)) (Φ₁ (Proc.devRef .tc Cert.KernelIdeal.main_v889)) (Φ₂ (Proc.devRef .tc Cert.ReferenceIdeal.main_v894)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 45) rfl) :) e162
  have e164 : @Eq ((⟨Cert.KernelIdeal.S131072, .f32⟩ : BufTy).Contents (Elt F)) (Φ₁ (Proc.devRef .tc Cert.KernelIdeal.main_v890)) (Φ₂ (Proc.devRef .tc Cert.ReferenceIdeal.main_v895)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 46) rfl) :) e163 e34
  have e165 : @Eq ((⟨Cert.KernelIdeal.S1x131072, .f32⟩ : BufTy).Contents (Elt F)) (Φ₁ (Proc.devRef .tc Cert.KernelIdeal.main_v891)) (Φ₂ (Proc.devRef .tc Cert.ReferenceIdeal.main_v896)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 47) rfl) :) e164
  have e166 : @Eq ((⟨Cert.KernelIdeal.S32x131072, .f32⟩ : BufTy).Contents (Elt F)) (Φ₁ (Proc.devRef .tc Cert.KernelIdeal.main_v892)) (Φ₂ (Proc.devRef .tc Cert.ReferenceIdeal.main_v897)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 48) rfl) :) e165
  have e167 : @Eq ((⟨Cert.KernelIdeal.S32x131072, .f32⟩ : BufTy).Contents (Elt F)) (Φ₁ (Proc.devRef .tc Cert.KernelIdeal.main_v893)) (Φ₂ (Proc.devRef .tc Cert.ReferenceIdeal.main_v898)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 49) rfl) :) e161 e166
  have e168 : @Eq ((⟨Cert.KernelIdeal.S32x131072, .f32⟩ : BufTy).Contents (Elt F)) (Φ₁ (Proc.devRef .tc Cert.KernelIdeal.main_v894)) (Φ₂ (Proc.devRef .tc Cert.ReferenceIdeal.main_v899)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 50) rfl) :) e158 e167
  have e169 : @Eq ((⟨Cert.KernelIdeal.S_, .f32⟩ : BufTy).Contents (Elt F)) (Φ₁ (Proc.devRef .tc Cert.KernelIdeal.main_cst_289)) (Φ₂ (Proc.devRef .tc Cert.ReferenceIdeal.main_cst_289)) := step0 (β := ((⟨Cert.KernelIdeal.S_, .f32⟩ : BufTy).Contents (Elt F))) (eq0 (at_ fa8 (i := 94) rfl) :) (eq0 (at_ fb2 (i := 51) rfl) :)
  have e170 : @Eq ((⟨Cert.KernelIdeal.S131072, .f32⟩ : BufTy).Contents (Elt F)) (Φ₁ (Proc.devRef .tc Cert.KernelIdeal.main_v895)) (Φ₂ (Proc.devRef .tc Cert.ReferenceIdeal.main_v900)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 52) rfl) :) e169
  have e171 : @Eq ((⟨Cert.KernelIdeal.S131072, .f32⟩ : BufTy).Contents (Elt F)) (Φ₁ (Proc.devRef .tc Cert.KernelIdeal.main_v896)) (Φ₂ (Proc.devRef .tc Cert.ReferenceIdeal.main_v901)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 53) rfl) :) e170 e33
  have e172 : @Eq ((⟨Cert.KernelIdeal.S1x131072, .f32⟩ : BufTy).Contents (Elt F)) (Φ₁ (Proc.devRef .tc Cert.KernelIdeal.main_v897)) (Φ₂ (Proc.devRef .tc Cert.ReferenceIdeal.main_v902)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 54) rfl) :) e171
  have e173 : @Eq ((⟨Cert.KernelIdeal.S32x131072, .f32⟩ : BufTy).Contents (Elt F)) (Φ₁ (Proc.devRef .tc Cert.KernelIdeal.main_v898)) (Φ₂ (Proc.devRef .tc Cert.ReferenceIdeal.main_v903)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 55) rfl) :) e172
  have e174 : @Eq ((⟨Cert.KernelIdeal.S32x131072, .f32⟩ : BufTy).Contents (Elt F)) (Φ₁ (Proc.devRef .tc Cert.KernelIdeal.main_v899)) (Φ₂ (Proc.devRef .tc Cert.ReferenceIdeal.main_v904)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 56) rfl) :) e128 e173
  have e175 : @Eq ((⟨Cert.KernelIdeal.S1x131072, .f32⟩ : BufTy).Contents (Elt F)) (Φ₁ (Proc.devRef .tc Cert.KernelIdeal.main_v900)) (Φ₂ (Proc.devRef .tc Cert.ReferenceIdeal.main_v905)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 57) rfl) :) e34
  have e176 : @Eq ((⟨Cert.KernelIdeal.S32x131072, .f32⟩ : BufTy).Contents (Elt F)) (Φ₁ (Proc.devRef .tc Cert.KernelIdeal.main_v901)) (Φ₂ (Proc.devRef .tc Cert.ReferenceIdeal.main_v906)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 58) rfl) :) e175
  have e177 : @Eq ((⟨Cert.KernelIdeal.S32x131072, .f32⟩ : BufTy).Contents (Elt F)) (Φ₁ (Proc.devRef .tc Cert.KernelIdeal.main_v902)) (Φ₂ (Proc.devRef .tc Cert.ReferenceIdeal.main_v907)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 59) rfl) :) e174 e176
  have e178 : @Eq ((⟨Cert.KernelIdeal.S32x131072, .f32⟩ : BufTy).Contents (Elt F)) (Φ₁ (Proc.devRef .tc Cert.KernelIdeal.main_v903)) (Φ₂ (Proc.devRef .tc Cert.ReferenceIdeal.main_v908)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 0) rfl) :) e168 e177
  have e179 : @Eq ((⟨Cert.KernelIdeal.S1x131072, .f32⟩ : BufTy).Contents (Elt F)) (Φ₁ (Proc.devRef .tc Cert.KernelIdeal.main_v904)) (Φ₂ (Proc.devRef .tc Cert.ReferenceIdeal.main_v909)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 1) rfl) :) e33
  have e180 : @Eq ((⟨Cert.KernelIdeal.S32x131072, .f32⟩ : BufTy).Contents (Elt F)) (Φ₁ (Proc.devRef .tc Cert.KernelIdeal.main_v905)) (Φ₂ (Proc.devRef .tc Cert.ReferenceIdeal.main_v910)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 2) rfl) :) e179
  have e181 : @Eq ((⟨Cert.KernelIdeal.S32x131072, .f32⟩ : BufTy).Contents (Elt F)) (Φ₁ (Proc.devRef .tc Cert.KernelIdeal.main_v906)) (Φ₂ (Proc.devRef .tc Cert.ReferenceIdeal.main_v911)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 3) rfl) :) e146 e180
  have e182 : @Eq ((⟨Cert.KernelIdeal.S1x131072, .f32⟩ : BufTy).Contents (Elt F)) (Φ₁ (Proc.devRef .tc Cert.KernelIdeal.main_v907)) (Φ₂ (Proc.devRef .tc Cert.ReferenceIdeal.main_v912)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 4) rfl) :) e34
  have e183 : @Eq ((⟨Cert.KernelIdeal.S32x131072, .f32⟩ : BufTy).Contents (Elt F)) (Φ₁ (Proc.devRef .tc Cert.KernelIdeal.main_v908)) (Φ₂ (Proc.devRef .tc Cert.ReferenceIdeal.main_v913)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 5) rfl) :) e182
  have e184 : @Eq ((⟨Cert.KernelIdeal.S32x131072, .f32⟩ : BufTy).Contents (Elt F)) (Φ₁ (Proc.devRef .tc Cert.KernelIdeal.main_v909)) (Φ₂ (Proc.devRef .tc Cert.ReferenceIdeal.main_v914)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 6) rfl) :) e181 e183
  have e185 : @Eq ((⟨Cert.KernelIdeal.S32x131072, .f32⟩ : BufTy).Contents (Elt F)) (Φ₁ (Proc.devRef .tc Cert.KernelIdeal.main_v910)) (Φ₂ (Proc.devRef .tc Cert.ReferenceIdeal.main_v915)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 7) rfl) :) e178 e184
  have e186 : @Eq ((⟨Cert.KernelIdeal.S131072x32, .f32⟩ : BufTy).Contents (Elt F)) (Φ₁ (Proc.devRef .tc Cert.KernelIdeal.main_v911)) (Φ₂ (Proc.devRef .tc Cert.ReferenceIdeal.main_v916)) := by rw [eq1 (at_ fa8 (i := 111) rfl), eq1 (at_ fb3 (i := 8) rfl), e185] <;> rfl
  exact e186

end Cert.Bridge

end
-- ==== Proof.SimB7.lean ====
/- Operations 1344 … 1530 of the one program and 1349 … 1535 of the other apply the same functions to corresponding
   buffers. If both programs' final contents satisfy their own lines' equations and agree on the buffers these operations
   read from outside, they agree on what these operations write: one congruence per operation, in program order. -/
import proofs.«133805_j10187662426200_2_alg».proof.Proof.KIStretch1
import proofs.«133805_j10187662426200_2_alg».proof.Proof.RefOps2
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B7 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_56 : List (HloOp Cert.KernelIdeal.τ Cert.KernelIdeal.sig (Elt F))).Forall fun op => ∀ b ∈ op.writes, Φ₁ b = op.result Φ₁ b)
    (fa1 : (Cert.KernelIdeal.Gen.hostOps0_57 : List (HloOp Cert.KernelIdeal.τ Cert.KernelIdeal.sig (Elt F))).Forall fun op => ∀ b ∈ op.writes, Φ₁ b = op.result Φ₁ b)
    (fa2 : (Cert.KernelIdeal.Gen.hostOps0_58 : List (HloOp Cert.KernelIdeal.τ Cert.KernelIdeal.sig (Elt F))).Forall fun op => ∀ b ∈ op.writes, Φ₁ b = op.result Φ₁ b)
    (fa3 : (Cert.KernelIdeal.Gen.hostOps0_59 : List (HloOp Cert.KernelIdeal.τ Cert.KernelIdeal.sig (Elt F))).Forall fun op => ∀ b ∈ op.writes, Φ₁ b = op.result Φ₁ b)
    (fa4 : (Cert.KernelIdeal.Gen.hostOps0_60 : List (HloOp Cert.KernelIdeal.τ Cert.KernelIdeal.sig (Elt F))).Forall fun op => ∀ b ∈ op.writes, Φ₁ b = op.result Φ₁ b)
    (fa5 : (Cert.KernelIdeal.Gen.hostOps0_61 : List (HloOp Cert.KernelIdeal.τ Cert.KernelIdeal.sig (Elt F))).Forall fun op => ∀ b ∈ op.writes, Φ₁ b = op.result Φ₁ b)
    (fa6 : (Cert.KernelIdeal.Gen.hostOps0_62 : List (HloOp Cert.KernelIdeal.τ Cert.KernelIdeal.sig (Elt F))).Forall fun op => ∀ b ∈ op.writes, Φ₁ b = op.result Φ₁ b)
    (fa7 : (Cert.KernelIdeal.Gen.hostOps0_63 : List (HloOp Cert.KernelIdeal.τ Cert.KernelIdeal.sig (Elt F))).Forall fun op => ∀ b ∈ op.writes, Φ₁ b = op.result Φ₁ b)
    (fa8 : (Cert.KernelIdeal.Gen.hostOps0_64 : List (HloOp Cert.KernelIdeal.τ Cert.KernelIdeal.sig (Elt F))).Forall fun op => ∀ b ∈ op.writes, Φ₁ b = op.result Φ₁ b)
    (fb0 : (Cert.ReferenceIdeal.Ops.w20 : List (HloOp Cert.ReferenceIdeal.τ Cert.ReferenceIdeal.sig (Elt F))).Forall fun op => ∀ b ∈ op.writes, Φ₂ b = op.result Φ₂ b)
    (fb1 : (Cert.ReferenceIdeal.Ops.w21 : List (HloOp Cert.ReferenceIdeal.τ Cert.ReferenceIdeal.sig (Elt F))).Forall fun op => ∀ b ∈ op.writes, Φ₂ b = op.result Φ₂ b)
    (fb2 : (Cert.ReferenceIdeal.Ops.w22 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_6)) (Φ₂ (Proc.devRef .tc Cert.ReferenceIdeal.main_c_6)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x128x128, .f32⟩ : BufTy).Contents (Elt F)) (Φ₁ (Proc.devRef .tc Cert.KernelIdeal.main_arg9)) (Φ₂ (Proc.devRef .tc Cert.ReferenceIdeal.main_arg9)))
    : @Eq ((⟨Cert.KernelIdeal.S131072x32, .f32⟩ : BufTy).Contents (Elt F)) (Φ₁ (Proc.devRef .tc Cert.KernelIdeal.main_v1040)) (Φ₂ (Proc.devRef .tc Cert.ReferenceIdeal.main_v1045)) := by
  have e0 : @Eq ((⟨Cert.KernelIdeal.S_, .i32⟩ : BufTy).Contents (Elt F)) (Φ₁ (Proc.devRef .tc Cert.KernelIdeal.main_c_290)) (Φ₂ (Proc.devRef .tc Cert.ReferenceIdeal.main_c_290)) := step0 (β := ((⟨Cert.KernelIdeal.S_, .i32⟩ : BufTy).Contents (Elt F))) (eq0 (at_ fa0 (i := 112) rfl) :) (eq0 (at_ fb0 (i := 9) rfl) :)
  have e1 : @Eq ((⟨Cert.KernelIdeal.S2, .i32⟩ : BufTy).Contents (Elt F)) (Φ₁ (Proc.devRef .tc Cert.KernelIdeal.main_v912)) (Φ₂ (Proc.devRef .tc Cert.ReferenceIdeal.main_v917)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 10) rfl) :) e0
  have e2 : @Eq ((⟨Cert.KernelIdeal.S2, .i1⟩ : BufTy).Contents (Elt F)) (Φ₁ (Proc.devRef .tc Cert.KernelIdeal.main_v913)) (Φ₂ (Proc.devRef .tc Cert.ReferenceIdeal.main_v918)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 11) rfl) :) x0 e1
  have e3 : @Eq ((⟨Cert.KernelIdeal.S_, .i32⟩ : BufTy).Contents (Elt F)) (Φ₁ (Proc.devRef .tc Cert.KernelIdeal.main_c_291)) (Φ₂ (Proc.devRef .tc Cert.ReferenceIdeal.main_c_291)) := step0 (β := ((⟨Cert.KernelIdeal.S_, .i32⟩ : BufTy).Contents (Elt F))) (eq0 (at_ fa0 (i := 115) rfl) :) (eq0 (at_ fb0 (i := 12) rfl) :)
  have e4 : @Eq ((⟨Cert.KernelIdeal.S2, .i32⟩ : BufTy).Contents (Elt F)) (Φ₁ (Proc.devRef .tc Cert.KernelIdeal.main_v914)) (Φ₂ (Proc.devRef .tc Cert.ReferenceIdeal.main_v919)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 13) rfl) :) e3
  have e5 : @Eq ((⟨Cert.KernelIdeal.S2, .i32⟩ : BufTy).Contents (Elt F)) (Φ₁ (Proc.devRef .tc Cert.KernelIdeal.main_v915)) (Φ₂ (Proc.devRef .tc Cert.ReferenceIdeal.main_v920)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 14) rfl) :) x0 e4
  have e6 : @Eq ((⟨Cert.KernelIdeal.S2, .i32⟩ : BufTy).Contents (Elt F)) (Φ₁ (Proc.devRef .tc Cert.KernelIdeal.main_v916)) (Φ₂ (Proc.devRef .tc Cert.ReferenceIdeal.main_v921)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 15) rfl) :) e2 e5 x0
  have e7 : @Eq ((⟨Cert.KernelIdeal.S2x1, .i32⟩ : BufTy).Contents (Elt F)) (Φ₁ (Proc.devRef .tc Cert.KernelIdeal.main_v917)) (Φ₂ (Proc.devRef .tc Cert.ReferenceIdeal.main_v922)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 16) rfl) :) e6
  have e8 : @Eq ((⟨Cert.KernelIdeal.S131072x2, .f32⟩ : BufTy).Contents (Elt F)) (Φ₁ (Proc.devRef .tc Cert.KernelIdeal.main_v918)) (Φ₂ (Proc.devRef .tc Cert.ReferenceIdeal.main_v923)) := by rw [eq2 (at_ fa0 (i := 120) rfl), eq2 (at_ fb0 (i := 17) rfl), x1, e7] <;> rfl
  have e9 : @Eq ((⟨Cert.KernelIdeal.S131072x1, .f32⟩ : BufTy).Contents (Elt F)) (Φ₁ (Proc.devRef .tc Cert.KernelIdeal.main_v919)) (Φ₂ (Proc.devRef .tc Cert.ReferenceIdeal.main_v924)) := by rw [eq1 (at_ fa0 (i := 121) rfl), eq1 (at_ fb0 (i := 18) rfl), e8] <;> rfl
  have e10 : @Eq ((⟨Cert.KernelIdeal.S131072, .f32⟩ : BufTy).Contents (Elt F)) (Φ₁ (Proc.devRef .tc Cert.KernelIdeal.main_v920)) (Φ₂ (Proc.devRef .tc Cert.ReferenceIdeal.main_v925)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 19) rfl) :) e9
  have e11 : @Eq ((⟨Cert.KernelIdeal.S_, .f32⟩ : BufTy).Contents (Elt F)) (Φ₁ (Proc.devRef .tc Cert.KernelIdeal.main_cst_292)) (Φ₂ (Proc.devRef .tc Cert.ReferenceIdeal.main_cst_292)) := step0 (β := ((⟨Cert.KernelIdeal.S_, .f32⟩ : BufTy).Contents (Elt F))) (eq0 (at_ fa0 (i := 123) rfl) :) (eq0 (at_ fb0 (i := 20) rfl) :)
  have e12 : @Eq ((⟨Cert.KernelIdeal.S131072, .f32⟩ : BufTy).Contents (Elt F)) (Φ₁ (Proc.devRef .tc Cert.KernelIdeal.main_v921)) (Φ₂ (Proc.devRef .tc Cert.ReferenceIdeal.main_v926)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 21) rfl) :) e11
  have e13 : @Eq ((⟨Cert.KernelIdeal.S131072, .f32⟩ : BufTy).Contents (Elt F)) (Φ₁ (Proc.devRef .tc Cert.KernelIdeal.main_v922)) (Φ₂ (Proc.devRef .tc Cert.ReferenceIdeal.main_v927)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 22) rfl) :) e10 e12
  have e14 : @Eq ((⟨Cert.KernelIdeal.S_, .f32⟩ : BufTy).Contents (Elt F)) (Φ₁ (Proc.devRef .tc Cert.KernelIdeal.main_cst_293)) (Φ₂ (Proc.devRef .tc Cert.ReferenceIdeal.main_cst_293)) := step0 (β := ((⟨Cert.KernelIdeal.S_, .f32⟩ : BufTy).Contents (Elt F))) (eq0 (at_ fa0 (i := 126) rfl) :) (eq0 (at_ fb0 (i := 23) rfl) :)
  have e15 : @Eq ((⟨Cert.KernelIdeal.S131072, .f32⟩ : BufTy).Contents (Elt F)) (Φ₁ (Proc.devRef .tc Cert.KernelIdeal.main_v923)) (Φ₂ (Proc.devRef .tc Cert.ReferenceIdeal.main_v928)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 24) rfl) :) e14
  have e16 : @Eq ((⟨Cert.KernelIdeal.S131072, .f32⟩ : BufTy).Contents (Elt F)) (Φ₁ (Proc.devRef .tc Cert.KernelIdeal.main_v924)) (Φ₂ (Proc.devRef .tc Cert.ReferenceIdeal.main_v929)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 25) rfl) :) e13 e15
  have e17 : @Eq ((⟨Cert.KernelIdeal.S_, .f32⟩ : BufTy).Contents (Elt F)) (Φ₁ (Proc.devRef .tc Cert.KernelIdeal.main_cst_294)) (Φ₂ (Proc.devRef .tc Cert.ReferenceIdeal.main_cst_294)) := step0 (β := ((⟨Cert.KernelIdeal.S_, .f32⟩ : BufTy).Contents (Elt F))) (eq0 (at_ fa0 (i := 129) rfl) :) (eq0 (at_ fb0 (i := 26) rfl) :)
  have e18 : @Eq ((⟨Cert.KernelIdeal.S131072, .f32⟩ : BufTy).Contents (Elt F)) (Φ₁ (Proc.devRef .tc Cert.KernelIdeal.main_v925)) (Φ₂ (Proc.devRef .tc Cert.ReferenceIdeal.main_v930)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 27) rfl) :) e17
  have e19 : @Eq ((⟨Cert.KernelIdeal.S131072, .f32⟩ : BufTy).Contents (Elt F)) (Φ₁ (Proc.devRef .tc Cert.KernelIdeal.main_v926)) (Φ₂ (Proc.devRef .tc Cert.ReferenceIdeal.main_v931)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 28) rfl) :) e16 e18
  have e20 : @Eq ((⟨Cert.KernelIdeal.S131072x1, .f32⟩ : BufTy).Contents (Elt F)) (Φ₁ (Proc.devRef .tc Cert.KernelIdeal.main_v927)) (Φ₂ (Proc.devRef .tc Cert.ReferenceIdeal.main_v932)) := by rw [eq1 (at_ fa0 (i := 132) rfl), eq1 (at_ fb0 (i := 29) rfl), e8] <;> rfl
  have e21 : @Eq ((⟨Cert.KernelIdeal.S131072, .f32⟩ : BufTy).Contents (Elt F)) (Φ₁ (Proc.devRef .tc Cert.KernelIdeal.main_v928)) (Φ₂ (Proc.devRef .tc Cert.ReferenceIdeal.main_v933)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 30) rfl) :) e20
  have e22 : @Eq ((⟨Cert.KernelIdeal.S_, .f32⟩ : BufTy).Contents (Elt F)) (Φ₁ (Proc.devRef .tc Cert.KernelIdeal.main_cst_295)) (Φ₂ (Proc.devRef .tc Cert.ReferenceIdeal.main_cst_295)) := step0 (β := ((⟨Cert.KernelIdeal.S_, .f32⟩ : BufTy).Contents (Elt F))) (eq0 (at_ fa0 (i := 134) rfl) :) (eq0 (at_ fb0 (i := 31) rfl) :)
  have e23 : @Eq ((⟨Cert.KernelIdeal.S131072, .f32⟩ : BufTy).Contents (Elt F)) (Φ₁ (Proc.devRef .tc Cert.KernelIdeal.main_v929)) (Φ₂ (Proc.devRef .tc Cert.ReferenceIdeal.main_v934)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 32) rfl) :) e22
  have e24 : @Eq ((⟨Cert.KernelIdeal.S131072, .f32⟩ : BufTy).Contents (Elt F)) (Φ₁ (Proc.devRef .tc Cert.KernelIdeal.main_v930)) (Φ₂ (Proc.devRef .tc Cert.ReferenceIdeal.main_v935)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 33) rfl) :) e21 e23
  have e25 : @Eq ((⟨Cert.KernelIdeal.S_, .f32⟩ : BufTy).Contents (Elt F)) (Φ₁ (Proc.devRef .tc Cert.KernelIdeal.main_cst_296)) (Φ₂ (Proc.devRef .tc Cert.ReferenceIdeal.main_cst_296)) := step0 (β := ((⟨Cert.KernelIdeal.S_, .f32⟩ : BufTy).Contents (Elt F))) (eq0 (at_ fa0 (i := 137) rfl) :) (eq0 (at_ fb0 (i := 34) rfl) :)
  have e26 : @Eq ((⟨Cert.KernelIdeal.S131072, .f32⟩ : BufTy).Contents (Elt F)) (Φ₁ (Proc.devRef .tc Cert.KernelIdeal.main_v931)) (Φ₂ (Proc.devRef .tc Cert.ReferenceIdeal.main_v936)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 35) rfl) :) e25
  have e27 : @Eq ((⟨Cert.KernelIdeal.S131072, .f32⟩ : BufTy).Contents (Elt F)) (Φ₁ (Proc.devRef .tc Cert.KernelIdeal.main_v932)) (Φ₂ (Proc.devRef .tc Cert.ReferenceIdeal.main_v937)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 36) rfl) :) e24 e26
  have e28 : @Eq ((⟨Cert.KernelIdeal.S_, .f32⟩ : BufTy).Contents (Elt F)) (Φ₁ (Proc.devRef .tc Cert.KernelIdeal.main_cst_297)) (Φ₂ (Proc.devRef .tc Cert.ReferenceIdeal.main_cst_297)) := step0 (β := ((⟨Cert.KernelIdeal.S_, .f32⟩ : BufTy).Contents (Elt F))) (eq0 (at_ fa0 (i := 140) rfl) :) (eq0 (at_ fb0 (i := 37) rfl) :)
  have e29 : @Eq ((⟨Cert.KernelIdeal.S131072, .f32⟩ : BufTy).Contents (Elt F)) (Φ₁ (Proc.devRef .tc Cert.KernelIdeal.main_v933)) (Φ₂ (Proc.devRef .tc Cert.ReferenceIdeal.main_v938)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 38) rfl) :) e28
  have e30 : @Eq ((⟨Cert.KernelIdeal.S131072, .f32⟩ : BufTy).Contents (Elt F)) (Φ₁ (Proc.devRef .tc Cert.KernelIdeal.main_v934)) (Φ₂ (Proc.devRef .tc Cert.ReferenceIdeal.main_v939)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 39) rfl) :) e27 e29
  have e31 : @Eq ((⟨Cert.KernelIdeal.S131072, .f32⟩ : BufTy).Contents (Elt F)) (Φ₁ (Proc.devRef .tc Cert.KernelIdeal.main_v935)) (Φ₂ (Proc.devRef .tc Cert.ReferenceIdeal.main_v940)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 40) rfl) :) e19
  have e32 : @Eq ((⟨Cert.KernelIdeal.S131072, .f32⟩ : BufTy).Contents (Elt F)) (Φ₁ (Proc.devRef .tc Cert.KernelIdeal.main_v936)) (Φ₂ (Proc.devRef .tc Cert.ReferenceIdeal.main_v941)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 41) rfl) :) e30
  have e33 : @Eq ((⟨Cert.KernelIdeal.S131072, .f32⟩ : BufTy).Contents (Elt F)) (Φ₁ (Proc.devRef .tc Cert.KernelIdeal.main_v937)) (Φ₂ (Proc.devRef .tc Cert.ReferenceIdeal.main_v942)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 42) rfl) :) e19 e31
  have e34 : @Eq ((⟨Cert.KernelIdeal.S131072, .f32⟩ : BufTy).Contents (Elt F)) (Φ₁ (Proc.devRef .tc Cert.KernelIdeal.main_v938)) (Φ₂ (Proc.devRef .tc Cert.ReferenceIdeal.main_v943)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 43) rfl) :) e30 e32
  have e35 : @Eq ((⟨Cert.KernelIdeal.S131072, .i32⟩ : BufTy).Contents (Elt F)) (Φ₁ (Proc.devRef .tc Cert.KernelIdeal.main_v939)) (Φ₂ (Proc.devRef .tc Cert.ReferenceIdeal.main_v944)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 44) rfl) :) e31
  have e36 : @Eq ((⟨Cert.KernelIdeal.S_, .i32⟩ : BufTy).Contents (Elt F)) (Φ₁ (Proc.devRef .tc Cert.KernelIdeal.main_c_298)) (Φ₂ (Proc.devRef .tc Cert.ReferenceIdeal.main_c_298)) := step0 (β := ((⟨Cert.KernelIdeal.S_, .i32⟩ : BufTy).Contents (Elt F))) (eq0 (at_ fa0 (i := 148) rfl) :) (eq0 (at_ fb0 (i := 45) rfl) :)
  have e37 : @Eq ((⟨Cert.KernelIdeal.S_, .i32⟩ : BufTy).Contents (Elt F)) (Φ₁ (Proc.devRef .tc Cert.KernelIdeal.main_c_299)) (Φ₂ (Proc.devRef .tc Cert.ReferenceIdeal.main_c_299)) := step0 (β := ((⟨Cert.KernelIdeal.S_, .i32⟩ : BufTy).Contents (Elt F))) (eq0 (at_ fa0 (i := 149) rfl) :) (eq0 (at_ fb0 (i := 46) rfl) :)
  have e38 : @Eq ((⟨Cert.KernelIdeal.S_, .i32⟩ : BufTy).Contents (Elt F)) (Φ₁ (Proc.devRef .tc Cert.KernelIdeal.main_call28_v0)) (Φ₂ (Proc.devRef .tc Cert.ReferenceIdeal.main_call28_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 47) rfl) :) e36
  have e39 : @Eq ((⟨Cert.KernelIdeal.S131072, .i32⟩ : BufTy).Contents (Elt F)) (Φ₁ (Proc.devRef .tc Cert.KernelIdeal.main_call28_v1)) (Φ₂ (Proc.devRef .tc Cert.ReferenceIdeal.main_call28_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 48) rfl) :) e38
  have e40 : @Eq ((⟨Cert.KernelIdeal.S131072, .i32⟩ : BufTy).Contents (Elt F)) (Φ₁ (Proc.devRef .tc Cert.KernelIdeal.main_call28_v2)) (Φ₂ (Proc.devRef .tc Cert.ReferenceIdeal.main_call28_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 49) rfl) :) e39 e35
  have e41 : @Eq ((⟨Cert.KernelIdeal.S_, .i32⟩ : BufTy).Contents (Elt F)) (Φ₁ (Proc.devRef .tc Cert.KernelIdeal.main_call28_v3)) (Φ₂ (Proc.devRef .tc Cert.ReferenceIdeal.main_call28_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 50) rfl) :) e37
  have e42 : @Eq ((⟨Cert.KernelIdeal.S131072, .i32⟩ : BufTy).Contents (Elt F)) (Φ₁ (Proc.devRef .tc Cert.KernelIdeal.main_call28_v4)) (Φ₂ (Proc.devRef .tc Cert.ReferenceIdeal.main_call28_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 51) rfl) :) e41
  have e43 : @Eq ((⟨Cert.KernelIdeal.S131072, .i32⟩ : BufTy).Contents (Elt F)) (Φ₁ (Proc.devRef .tc Cert.KernelIdeal.main_v940)) (Φ₂ (Proc.devRef .tc Cert.ReferenceIdeal.main_v945)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 52) rfl) :) e42 e40
  have e44 : @Eq ((⟨Cert.KernelIdeal.S_, .i32⟩ : BufTy).Contents (Elt F)) (Φ₁ (Proc.devRef .tc Cert.KernelIdeal.main_c_300)) (Φ₂ (Proc.devRef .tc Cert.ReferenceIdeal.main_c_300)) := step0 (β := ((⟨Cert.KernelIdeal.S_, .i32⟩ : BufTy).Contents (Elt F))) (eq0 (at_ fa2 (i := 0) rfl) :) (eq0 (at_ fb0 (i := 53) rfl) :)
  have e45 : @Eq ((⟨Cert.KernelIdeal.S131072, .i32⟩ : BufTy).Contents (Elt F)) (Φ₁ (Proc.devRef .tc Cert.KernelIdeal.main_v941)) (Φ₂ (Proc.devRef .tc Cert.ReferenceIdeal.main_v946)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb0 (i := 54) rfl) :) e44
  have e46 : @Eq ((⟨Cert.KernelIdeal.S131072, .i32⟩ : BufTy).Contents (Elt F)) (Φ₁ (Proc.devRef .tc Cert.KernelIdeal.main_v942)) (Φ₂ (Proc.devRef .tc Cert.ReferenceIdeal.main_v947)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb0 (i := 55) rfl) :) e43 e45
  have e47 : @Eq ((⟨Cert.KernelIdeal.S_, .i32⟩ : BufTy).Contents (Elt F)) (Φ₁ (Proc.devRef .tc Cert.KernelIdeal.main_c_301)) (Φ₂ (Proc.devRef .tc Cert.ReferenceIdeal.main_c_301)) := step0 (β := ((⟨Cert.KernelIdeal.S_, .i32⟩ : BufTy).Contents (Elt F))) (eq0 (at_ fa2 (i := 3) rfl) :) (eq0 (at_ fb0 (i := 56) rfl) :)
  have e48 : @Eq ((⟨Cert.KernelIdeal.S_, .i32⟩ : BufTy).Contents (Elt F)) (Φ₁ (Proc.devRef .tc Cert.KernelIdeal.main_c_302)) (Φ₂ (Proc.devRef .tc Cert.ReferenceIdeal.main_c_302)) := step0 (β := ((⟨Cert.KernelIdeal.S_, .i32⟩ : BufTy).Contents (Elt F))) (eq0 (at_ fa2 (i := 4) rfl) :) (eq0 (at_ fb0 (i := 57) rfl) :)
  have e49 : @Eq ((⟨Cert.KernelIdeal.S_, .i32⟩ : BufTy).Contents (Elt F)) (Φ₁ (Proc.devRef .tc Cert.KernelIdeal.main_call29_v0)) (Φ₂ (Proc.devRef .tc Cert.ReferenceIdeal.main_call29_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb0 (i := 58) rfl) :) e47
  have e50 : @Eq ((⟨Cert.KernelIdeal.S131072, .i32⟩ : BufTy).Contents (Elt F)) (Φ₁ (Proc.devRef .tc Cert.KernelIdeal.main_call29_v1)) (Φ₂ (Proc.devRef .tc Cert.ReferenceIdeal.main_call29_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb0 (i := 59) rfl) :) e49
  have e51 : @Eq ((⟨Cert.KernelIdeal.S131072, .i32⟩ : BufTy).Contents (Elt F)) (Φ₁ (Proc.devRef .tc Cert.KernelIdeal.main_call29_v2)) (Φ₂ (Proc.devRef .tc Cert.ReferenceIdeal.main_call29_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb0 (i := 60) rfl) :) e50 e46
  have e52 : @Eq ((⟨Cert.KernelIdeal.S_, .i32⟩ : BufTy).Contents (Elt F)) (Φ₁ (Proc.devRef .tc Cert.KernelIdeal.main_call29_v3)) (Φ₂ (Proc.devRef .tc Cert.ReferenceIdeal.main_call29_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb0 (i := 61) rfl) :) e48
  have e53 : @Eq ((⟨Cert.KernelIdeal.S131072, .i32⟩ : BufTy).Contents (Elt F)) (Φ₁ (Proc.devRef .tc Cert.KernelIdeal.main_call29_v4)) (Φ₂ (Proc.devRef .tc Cert.ReferenceIdeal.main_call29_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb0 (i := 62) rfl) :) e52
  have e54 : @Eq ((⟨Cert.KernelIdeal.S131072, .i32⟩ : BufTy).Contents (Elt F)) (Φ₁ (Proc.devRef .tc Cert.KernelIdeal.main_v943)) (Φ₂ (Proc.devRef .tc Cert.ReferenceIdeal.main_v948)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb0 (i := 63) rfl) :) e53 e51
  have e55 : @Eq ((⟨Cert.KernelIdeal.S131072, .i32⟩ : BufTy).Contents (Elt F)) (Φ₁ (Proc.devRef .tc Cert.KernelIdeal.main_v944)) (Φ₂ (Proc.devRef .tc Cert.ReferenceIdeal.main_v949)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb0 (i := 64) rfl) :) e32
  have e56 : @Eq ((⟨Cert.KernelIdeal.S_, .i32⟩ : BufTy).Contents (Elt F)) (Φ₁ (Proc.devRef .tc Cert.KernelIdeal.main_c_303)) (Φ₂ (Proc.devRef .tc Cert.ReferenceIdeal.main_c_303)) := step0 (β := ((⟨Cert.KernelIdeal.S_, .i32⟩ : BufTy).Contents (Elt F))) (eq0 (at_ fa4 (i := 1) rfl) :) (eq0 (at_ fb0 (i := 65) rfl) :)
  have e57 : @Eq ((⟨Cert.KernelIdeal.S_, .i32⟩ : BufTy).Contents (Elt F)) (Φ₁ (Proc.devRef .tc Cert.KernelIdeal.main_c_304)) (Φ₂ (Proc.devRef .tc Cert.ReferenceIdeal.main_c_304)) := step0 (β := ((⟨Cert.KernelIdeal.S_, .i32⟩ : BufTy).Contents (Elt F))) (eq0 (at_ fa4 (i := 2) rfl) :) (eq0 (at_ fb0 (i := 66) rfl) :)
  have e58 : @Eq ((⟨Cert.KernelIdeal.S_, .i32⟩ : BufTy).Contents (Elt F)) (Φ₁ (Proc.devRef .tc Cert.KernelIdeal.main_call30_v0)) (Φ₂ (Proc.devRef .tc Cert.ReferenceIdeal.main_call30_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb0 (i := 67) rfl) :) e56
  have e59 : @Eq ((⟨Cert.KernelIdeal.S131072, .i32⟩ : BufTy).Contents (Elt F)) (Φ₁ (Proc.devRef .tc Cert.KernelIdeal.main_call30_v1)) (Φ₂ (Proc.devRef .tc Cert.ReferenceIdeal.main_call30_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb0 (i := 68) rfl) :) e58
  have e60 : @Eq ((⟨Cert.KernelIdeal.S131072, .i32⟩ : BufTy).Contents (Elt F)) (Φ₁ (Proc.devRef .tc Cert.KernelIdeal.main_call30_v2)) (Φ₂ (Proc.devRef .tc Cert.ReferenceIdeal.main_call30_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb0 (i := 69) rfl) :) e59 e55
  have e61 : @Eq ((⟨Cert.KernelIdeal.S_, .i32⟩ : BufTy).Contents (Elt F)) (Φ₁ (Proc.devRef .tc Cert.KernelIdeal.main_call30_v3)) (Φ₂ (Proc.devRef .tc Cert.ReferenceIdeal.main_call30_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb0 (i := 70) rfl) :) e57
  have e62 : @Eq ((⟨Cert.KernelIdeal.S131072, .i32⟩ : BufTy).Contents (Elt F)) (Φ₁ (Proc.devRef .tc Cert.KernelIdeal.main_call30_v4)) (Φ₂ (Proc.devRef .tc Cert.ReferenceIdeal.main_call30_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb0 (i := 71) rfl) :) e61
  have e63 : @Eq ((⟨Cert.KernelIdeal.S131072, .i32⟩ : BufTy).Contents (Elt F)) (Φ₁ (Proc.devRef .tc Cert.KernelIdeal.main_v945)) (Φ₂ (Proc.devRef .tc Cert.ReferenceIdeal.main_v950)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb0 (i := 72) rfl) :) e62 e60
  have e64 : @Eq ((⟨Cert.KernelIdeal.S_, .i32⟩ : BufTy).Contents (Elt F)) (Φ₁ (Proc.devRef .tc Cert.KernelIdeal.main_c_305)) (Φ₂ (Proc.devRef .tc Cert.ReferenceIdeal.main_c_305)) := step0 (β := ((⟨Cert.KernelIdeal.S_, .i32⟩ : BufTy).Contents (Elt F))) (eq0 (at_ fa6 (i := 0) rfl) :) (eq0 (at_ fb0 (i := 73) rfl) :)
  have e65 : @Eq ((⟨Cert.KernelIdeal.S131072, .i32⟩ : BufTy).Contents (Elt F)) (Φ₁ (Proc.devRef .tc Cert.KernelIdeal.main_v946)) (Φ₂ (Proc.devRef .tc Cert.ReferenceIdeal.main_v951)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb0 (i := 74) rfl) :) e64
  have e66 : @Eq ((⟨Cert.KernelIdeal.S131072, .i32⟩ : BufTy).Contents (Elt F)) (Φ₁ (Proc.devRef .tc Cert.KernelIdeal.main_v947)) (Φ₂ (Proc.devRef .tc Cert.ReferenceIdeal.main_v952)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 0) rfl) :) e63 e65
  have e67 : @Eq ((⟨Cert.KernelIdeal.S_, .i32⟩ : BufTy).Contents (Elt F)) (Φ₁ (Proc.devRef .tc Cert.KernelIdeal.main_c_306)) (Φ₂ (Proc.devRef .tc Cert.ReferenceIdeal.main_c_306)) := step0 (β := ((⟨Cert.KernelIdeal.S_, .i32⟩ : BufTy).Contents (Elt F))) (eq0 (at_ fa6 (i := 3) rfl) :) (eq0 (at_ fb1 (i := 1) rfl) :)
  have e68 : @Eq ((⟨Cert.KernelIdeal.S_, .i32⟩ : BufTy).Contents (Elt F)) (Φ₁ (Proc.devRef .tc Cert.KernelIdeal.main_c_307)) (Φ₂ (Proc.devRef .tc Cert.ReferenceIdeal.main_c_307)) := step0 (β := ((⟨Cert.KernelIdeal.S_, .i32⟩ : BufTy).Contents (Elt F))) (eq0 (at_ fa6 (i := 4) rfl) :) (eq0 (at_ fb1 (i := 2) rfl) :)
  have e69 : @Eq ((⟨Cert.KernelIdeal.S_, .i32⟩ : BufTy).Contents (Elt F)) (Φ₁ (Proc.devRef .tc Cert.KernelIdeal.main_call31_v0)) (Φ₂ (Proc.devRef .tc Cert.ReferenceIdeal.main_call31_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 3) rfl) :) e67
  have e70 : @Eq ((⟨Cert.KernelIdeal.S131072, .i32⟩ : BufTy).Contents (Elt F)) (Φ₁ (Proc.devRef .tc Cert.KernelIdeal.main_call31_v1)) (Φ₂ (Proc.devRef .tc Cert.ReferenceIdeal.main_call31_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 4) rfl) :) e69
  have e71 : @Eq ((⟨Cert.KernelIdeal.S131072, .i32⟩ : BufTy).Contents (Elt F)) (Φ₁ (Proc.devRef .tc Cert.KernelIdeal.main_call31_v2)) (Φ₂ (Proc.devRef .tc Cert.ReferenceIdeal.main_call31_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 5) rfl) :) e70 e66
  have e72 : @Eq ((⟨Cert.KernelIdeal.S_, .i32⟩ : BufTy).Contents (Elt F)) (Φ₁ (Proc.devRef .tc Cert.KernelIdeal.main_call31_v3)) (Φ₂ (Proc.devRef .tc Cert.ReferenceIdeal.main_call31_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 6) rfl) :) e68
  have e73 : @Eq ((⟨Cert.KernelIdeal.S131072, .i32⟩ : BufTy).Contents (Elt F)) (Φ₁ (Proc.devRef .tc Cert.KernelIdeal.main_call31_v4)) (Φ₂ (Proc.devRef .tc Cert.ReferenceIdeal.main_call31_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 7) rfl) :) e72
  have e74 : @Eq ((⟨Cert.KernelIdeal.S131072, .i32⟩ : BufTy).Contents (Elt F)) (Φ₁ (Proc.devRef .tc Cert.KernelIdeal.main_v948)) (Φ₂ (Proc.devRef .tc Cert.ReferenceIdeal.main_v953)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 8) rfl) :) e73 e71
  have e75 : @Eq ((⟨Cert.KernelIdeal.S_, .i32⟩ : BufTy).Contents (Elt F)) (Φ₁ (Proc.devRef .tc Cert.KernelIdeal.main_c_308)) (Φ₂ (Proc.devRef .tc Cert.ReferenceIdeal.main_c_308)) := step0 (β := ((⟨Cert.KernelIdeal.S_, .i32⟩ : BufTy).Contents (Elt F))) (eq0 (at_ fa8 (i := 0) rfl) :) (eq0 (at_ fb1 (i := 9) rfl) :)
  have e76 : @Eq ((⟨Cert.KernelIdeal.S131072, .i32⟩ : BufTy).Contents (Elt F)) (Φ₁ (Proc.devRef .tc Cert.KernelIdeal.main_v949)) (Φ₂ (Proc.devRef .tc Cert.ReferenceIdeal.main_v954)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 10) rfl) :) e75
  have e77 : @Eq ((⟨Cert.KernelIdeal.S131072, .i1⟩ : BufTy).Contents (Elt F)) (Φ₁ (Proc.devRef .tc Cert.KernelIdeal.main_v950)) (Φ₂ (Proc.devRef .tc Cert.ReferenceIdeal.main_v955)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 11) rfl) :) e63 e76
  have e78 : @Eq ((⟨Cert.KernelIdeal.S_, .i32⟩ : BufTy).Contents (Elt F)) (Φ₁ (Proc.devRef .tc Cert.KernelIdeal.main_c_309)) (Φ₂ (Proc.devRef .tc Cert.ReferenceIdeal.main_c_309)) := step0 (β := ((⟨Cert.KernelIdeal.S_, .i32⟩ : BufTy).Contents (Elt F))) (eq0 (at_ fa8 (i := 3) rfl) :) (eq0 (at_ fb1 (i := 12) rfl) :)
  have e79 : @Eq ((⟨Cert.KernelIdeal.S131072, .i32⟩ : BufTy).Contents (Elt F)) (Φ₁ (Proc.devRef .tc Cert.KernelIdeal.main_v951)) (Φ₂ (Proc.devRef .tc Cert.ReferenceIdeal.main_v956)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 13) rfl) :) e78
  have e80 : @Eq ((⟨Cert.KernelIdeal.S131072, .i32⟩ : BufTy).Contents (Elt F)) (Φ₁ (Proc.devRef .tc Cert.KernelIdeal.main_v952)) (Φ₂ (Proc.devRef .tc Cert.ReferenceIdeal.main_v957)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 14) rfl) :) e63 e79
  have e81 : @Eq ((⟨Cert.KernelIdeal.S131072, .i32⟩ : BufTy).Contents (Elt F)) (Φ₁ (Proc.devRef .tc Cert.KernelIdeal.main_v953)) (Φ₂ (Proc.devRef .tc Cert.ReferenceIdeal.main_v958)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 15) rfl) :) e77 e80 e63
  have e82 : @Eq ((⟨Cert.KernelIdeal.S_, .i32⟩ : BufTy).Contents (Elt F)) (Φ₁ (Proc.devRef .tc Cert.KernelIdeal.main_c_310)) (Φ₂ (Proc.devRef .tc Cert.ReferenceIdeal.main_c_310)) := step0 (β := ((⟨Cert.KernelIdeal.S_, .i32⟩ : BufTy).Contents (Elt F))) (eq0 (at_ fa8 (i := 7) rfl) :) (eq0 (at_ fb1 (i := 16) rfl) :)
  have e83 : @Eq ((⟨Cert.KernelIdeal.S131072, .i32⟩ : BufTy).Contents (Elt F)) (Φ₁ (Proc.devRef .tc Cert.KernelIdeal.main_v954)) (Φ₂ (Proc.devRef .tc Cert.ReferenceIdeal.main_v959)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 17) rfl) :) e82
  have e84 : @Eq ((⟨Cert.KernelIdeal.S131072, .i1⟩ : BufTy).Contents (Elt F)) (Φ₁ (Proc.devRef .tc Cert.KernelIdeal.main_v955)) (Φ₂ (Proc.devRef .tc Cert.ReferenceIdeal.main_v960)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 18) rfl) :) e43 e83
  have e85 : @Eq ((⟨Cert.KernelIdeal.S_, .i32⟩ : BufTy).Contents (Elt F)) (Φ₁ (Proc.devRef .tc Cert.KernelIdeal.main_c_311)) (Φ₂ (Proc.devRef .tc Cert.ReferenceIdeal.main_c_311)) := step0 (β := ((⟨Cert.KernelIdeal.S_, .i32⟩ : BufTy).Contents (Elt F))) (eq0 (at_ fa8 (i := 10) rfl) :) (eq0 (at_ fb1 (i := 19) rfl) :)
  have e86 : @Eq ((⟨Cert.KernelIdeal.S131072, .i32⟩ : BufTy).Contents (Elt F)) (Φ₁ (Proc.devRef .tc Cert.KernelIdeal.main_v956)) (Φ₂ (Proc.devRef .tc Cert.ReferenceIdeal.main_v961)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 20) rfl) :) e85
  have e87 : @Eq ((⟨Cert.KernelIdeal.S131072, .i32⟩ : BufTy).Contents (Elt F)) (Φ₁ (Proc.devRef .tc Cert.KernelIdeal.main_v957)) (Φ₂ (Proc.devRef .tc Cert.ReferenceIdeal.main_v962)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 21) rfl) :) e43 e86
  have e88 : @Eq ((⟨Cert.KernelIdeal.S131072, .i32⟩ : BufTy).Contents (Elt F)) (Φ₁ (Proc.devRef .tc Cert.KernelIdeal.main_v958)) (Φ₂ (Proc.devRef .tc Cert.ReferenceIdeal.main_v963)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 22) rfl) :) e84 e87 e43
  have e89 : @Eq ((⟨Cert.KernelIdeal.S131072x1, .i32⟩ : BufTy).Contents (Elt F)) (Φ₁ (Proc.devRef .tc Cert.KernelIdeal.main_v959)) (Φ₂ (Proc.devRef .tc Cert.ReferenceIdeal.main_v964)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 23) rfl) :) e81
  have e90 : @Eq ((⟨Cert.KernelIdeal.S131072x1, .i32⟩ : BufTy).Contents (Elt F)) (Φ₁ (Proc.devRef .tc Cert.KernelIdeal.main_v960)) (Φ₂ (Proc.devRef .tc Cert.ReferenceIdeal.main_v965)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 24) rfl) :) e88
  have e91 : @Eq ((⟨Cert.KernelIdeal.S131072x2, .i32⟩ : BufTy).Contents (Elt F)) (Φ₁ (Proc.devRef .tc Cert.KernelIdeal.main_v961)) (Φ₂ (Proc.devRef .tc Cert.ReferenceIdeal.main_v966)) := by rw [eq2 (at_ fa8 (i := 16) rfl), eq2 (at_ fb1 (i := 25) rfl), e89, e90] <;> rfl
  have e92 : @Eq ((⟨Cert.KernelIdeal.S32x131072, .f32⟩ : BufTy).Contents (Elt F)) (Φ₁ (Proc.devRef .tc Cert.KernelIdeal.main_v962)) (Φ₂ (Proc.devRef .tc Cert.ReferenceIdeal.main_v967)) := by rw [eq2 (at_ fa8 (i := 17) rfl), eq2 (at_ fb1 (i := 26) rfl), x2, e91] <;> rfl
  have e93 : @Eq ((⟨Cert.KernelIdeal.S_, .i32⟩ : BufTy).Contents (Elt F)) (Φ₁ (Proc.devRef .tc Cert.KernelIdeal.main_c_312)) (Φ₂ (Proc.devRef .tc Cert.ReferenceIdeal.main_c_312)) := step0 (β := ((⟨Cert.KernelIdeal.S_, .i32⟩ : BufTy).Contents (Elt F))) (eq0 (at_ fa8 (i := 18) rfl) :) (eq0 (at_ fb1 (i := 27) rfl) :)
  have e94 : @Eq ((⟨Cert.KernelIdeal.S131072, .i32⟩ : BufTy).Contents (Elt F)) (Φ₁ (Proc.devRef .tc Cert.KernelIdeal.main_v963)) (Φ₂ (Proc.devRef .tc Cert.ReferenceIdeal.main_v968)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 28) rfl) :) e93
  have e95 : @Eq ((⟨Cert.KernelIdeal.S131072, .i1⟩ : BufTy).Contents (Elt F)) (Φ₁ (Proc.devRef .tc Cert.KernelIdeal.main_v964)) (Φ₂ (Proc.devRef .tc Cert.ReferenceIdeal.main_v969)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 29) rfl) :) e63 e94
  have e96 : @Eq ((⟨Cert.KernelIdeal.S_, .i32⟩ : BufTy).Contents (Elt F)) (Φ₁ (Proc.devRef .tc Cert.KernelIdeal.main_c_313)) (Φ₂ (Proc.devRef .tc Cert.ReferenceIdeal.main_c_313)) := step0 (β := ((⟨Cert.KernelIdeal.S_, .i32⟩ : BufTy).Contents (Elt F))) (eq0 (at_ fa8 (i := 21) rfl) :) (eq0 (at_ fb1 (i := 30) rfl) :)
  have e97 : @Eq ((⟨Cert.KernelIdeal.S131072, .i32⟩ : BufTy).Contents (Elt F)) (Φ₁ (Proc.devRef .tc Cert.KernelIdeal.main_v965)) (Φ₂ (Proc.devRef .tc Cert.ReferenceIdeal.main_v970)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 31) rfl) :) e96
  have e98 : @Eq ((⟨Cert.KernelIdeal.S131072, .i32⟩ : BufTy).Contents (Elt F)) (Φ₁ (Proc.devRef .tc Cert.KernelIdeal.main_v966)) (Φ₂ (Proc.devRef .tc Cert.ReferenceIdeal.main_v971)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 32) rfl) :) e63 e97
  have e99 : @Eq ((⟨Cert.KernelIdeal.S131072, .i32⟩ : BufTy).Contents (Elt F)) (Φ₁ (Proc.devRef .tc Cert.KernelIdeal.main_v967)) (Φ₂ (Proc.devRef .tc Cert.ReferenceIdeal.main_v972)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 33) rfl) :) e95 e98 e63
  have e100 : @Eq ((⟨Cert.KernelIdeal.S_, .i32⟩ : BufTy).Contents (Elt F)) (Φ₁ (Proc.devRef .tc Cert.KernelIdeal.main_c_314)) (Φ₂ (Proc.devRef .tc Cert.ReferenceIdeal.main_c_314)) := step0 (β := ((⟨Cert.KernelIdeal.S_, .i32⟩ : BufTy).Contents (Elt F))) (eq0 (at_ fa8 (i := 25) rfl) :) (eq0 (at_ fb1 (i := 34) rfl) :)
  have e101 : @Eq ((⟨Cert.KernelIdeal.S131072, .i32⟩ : BufTy).Contents (Elt F)) (Φ₁ (Proc.devRef .tc Cert.KernelIdeal.main_v968)) (Φ₂ (Proc.devRef .tc Cert.ReferenceIdeal.main_v973)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 35) rfl) :) e100
  have e102 : @Eq ((⟨Cert.KernelIdeal.S131072, .i1⟩ : BufTy).Contents (Elt F)) (Φ₁ (Proc.devRef .tc Cert.KernelIdeal.main_v969)) (Φ₂ (Proc.devRef .tc Cert.ReferenceIdeal.main_v974)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 36) rfl) :) e54 e101
  have e103 : @Eq ((⟨Cert.KernelIdeal.S_, .i32⟩ : BufTy).Contents (Elt F)) (Φ₁ (Proc.devRef .tc Cert.KernelIdeal.main_c_315)) (Φ₂ (Proc.devRef .tc Cert.ReferenceIdeal.main_c_315)) := step0 (β := ((⟨Cert.KernelIdeal.S_, .i32⟩ : BufTy).Contents (Elt F))) (eq0 (at_ fa8 (i := 28) rfl) :) (eq0 (at_ fb1 (i := 37) rfl) :)
  have e104 : @Eq ((⟨Cert.KernelIdeal.S131072, .i32⟩ : BufTy).Contents (Elt F)) (Φ₁ (Proc.devRef .tc Cert.KernelIdeal.main_v970)) (Φ₂ (Proc.devRef .tc Cert.ReferenceIdeal.main_v975)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 38) rfl) :) e103
  have e105 : @Eq ((⟨Cert.KernelIdeal.S131072, .i32⟩ : BufTy).Contents (Elt F)) (Φ₁ (Proc.devRef .tc Cert.KernelIdeal.main_v971)) (Φ₂ (Proc.devRef .tc Cert.ReferenceIdeal.main_v976)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 39) rfl) :) e54 e104
  have e106 : @Eq ((⟨Cert.KernelIdeal.S131072, .i32⟩ : BufTy).Contents (Elt F)) (Φ₁ (Proc.devRef .tc Cert.KernelIdeal.main_v972)) (Φ₂ (Proc.devRef .tc Cert.ReferenceIdeal.main_v977)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 40) rfl) :) e102 e105 e54
  have e107 : @Eq ((⟨Cert.KernelIdeal.S131072x1, .i32⟩ : BufTy).Contents (Elt F)) (Φ₁ (Proc.devRef .tc Cert.KernelIdeal.main_v973)) (Φ₂ (Proc.devRef .tc Cert.ReferenceIdeal.main_v978)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 41) rfl) :) e99
  have e108 : @Eq ((⟨Cert.KernelIdeal.S131072x1, .i32⟩ : BufTy).Contents (Elt F)) (Φ₁ (Proc.devRef .tc Cert.KernelIdeal.main_v974)) (Φ₂ (Proc.devRef .tc Cert.ReferenceIdeal.main_v979)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 42) rfl) :) e106
  have e109 : @Eq ((⟨Cert.KernelIdeal.S131072x2, .i32⟩ : BufTy).Contents (Elt F)) (Φ₁ (Proc.devRef .tc Cert.KernelIdeal.main_v975)) (Φ₂ (Proc.devRef .tc Cert.ReferenceIdeal.main_v980)) := by rw [eq2 (at_ fa8 (i := 34) rfl), eq2 (at_ fb1 (i := 43) rfl), e107, e108] <;> rfl
  have e110 : @Eq ((⟨Cert.KernelIdeal.S32x131072, .f32⟩ : BufTy).Contents (Elt F)) (Φ₁ (Proc.devRef .tc Cert.KernelIdeal.main_v976)) (Φ₂ (Proc.devRef .tc Cert.ReferenceIdeal.main_v981)) := by rw [eq2 (at_ fa8 (i := 35) rfl), eq2 (at_ fb1 (i := 44) rfl), x2, e109] <;> rfl
  have e111 : @Eq ((⟨Cert.KernelIdeal.S_, .i32⟩ : BufTy).Contents (Elt F)) (Φ₁ (Proc.devRef .tc Cert.KernelIdeal.main_c_316)) (Φ₂ (Proc.devRef .tc Cert.ReferenceIdeal.main_c_316)) := step0 (β := ((⟨Cert.KernelIdeal.S_, .i32⟩ : BufTy).Contents (Elt F))) (eq0 (at_ fa8 (i := 36) rfl) :) (eq0 (at_ fb1 (i := 45) rfl) :)
  have e112 : @Eq ((⟨Cert.KernelIdeal.S131072, .i32⟩ : BufTy).Contents (Elt F)) (Φ₁ (Proc.devRef .tc Cert.KernelIdeal.main_v977)) (Φ₂ (Proc.devRef .tc Cert.ReferenceIdeal.main_v982)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 46) rfl) :) e111
  have e113 : @Eq ((⟨Cert.KernelIdeal.S131072, .i1⟩ : BufTy).Contents (Elt F)) (Φ₁ (Proc.devRef .tc Cert.KernelIdeal.main_v978)) (Φ₂ (Proc.devRef .tc Cert.ReferenceIdeal.main_v983)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 47) rfl) :) e74 e112
  have e114 : @Eq ((⟨Cert.KernelIdeal.S_, .i32⟩ : BufTy).Contents (Elt F)) (Φ₁ (Proc.devRef .tc Cert.KernelIdeal.main_c_317)) (Φ₂ (Proc.devRef .tc Cert.ReferenceIdeal.main_c_317)) := step0 (β := ((⟨Cert.KernelIdeal.S_, .i32⟩ : BufTy).Contents (Elt F))) (eq0 (at_ fa8 (i := 39) rfl) :) (eq0 (at_ fb1 (i := 48) rfl) :)
  have e115 : @Eq ((⟨Cert.KernelIdeal.S131072, .i32⟩ : BufTy).Contents (Elt F)) (Φ₁ (Proc.devRef .tc Cert.KernelIdeal.main_v979)) (Φ₂ (Proc.devRef .tc Cert.ReferenceIdeal.main_v984)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 49) rfl) :) e114
  have e116 : @Eq ((⟨Cert.KernelIdeal.S131072, .i32⟩ : BufTy).Contents (Elt F)) (Φ₁ (Proc.devRef .tc Cert.KernelIdeal.main_v980)) (Φ₂ (Proc.devRef .tc Cert.ReferenceIdeal.main_v985)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 50) rfl) :) e74 e115
  have e117 : @Eq ((⟨Cert.KernelIdeal.S131072, .i32⟩ : BufTy).Contents (Elt F)) (Φ₁ (Proc.devRef .tc Cert.KernelIdeal.main_v981)) (Φ₂ (Proc.devRef .tc Cert.ReferenceIdeal.main_v986)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 51) rfl) :) e113 e116 e74
  have e118 : @Eq ((⟨Cert.KernelIdeal.S_, .i32⟩ : BufTy).Contents (Elt F)) (Φ₁ (Proc.devRef .tc Cert.KernelIdeal.main_c_318)) (Φ₂ (Proc.devRef .tc Cert.ReferenceIdeal.main_c_318)) := step0 (β := ((⟨Cert.KernelIdeal.S_, .i32⟩ : BufTy).Contents (Elt F))) (eq0 (at_ fa8 (i := 43) rfl) :) (eq0 (at_ fb1 (i := 52) rfl) :)
  have e119 : @Eq ((⟨Cert.KernelIdeal.S131072, .i32⟩ : BufTy).Contents (Elt F)) (Φ₁ (Proc.devRef .tc Cert.KernelIdeal.main_v982)) (Φ₂ (Proc.devRef .tc Cert.ReferenceIdeal.main_v987)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 53) rfl) :) e118
  have e120 : @Eq ((⟨Cert.KernelIdeal.S131072, .i1⟩ : BufTy).Contents (Elt F)) (Φ₁ (Proc.devRef .tc Cert.KernelIdeal.main_v983)) (Φ₂ (Proc.devRef .tc Cert.ReferenceIdeal.main_v988)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb1 (i := 54) rfl) :) e43 e119
  have e121 : @Eq ((⟨Cert.KernelIdeal.S_, .i32⟩ : BufTy).Contents (Elt F)) (Φ₁ (Proc.devRef .tc Cert.KernelIdeal.main_c_319)) (Φ₂ (Proc.devRef .tc Cert.ReferenceIdeal.main_c_319)) := step0 (β := ((⟨Cert.KernelIdeal.S_, .i32⟩ : BufTy).Contents (Elt F))) (eq0 (at_ fa8 (i := 46) rfl) :) (eq0 (at_ fb1 (i := 55) rfl) :)
  have e122 : @Eq ((⟨Cert.KernelIdeal.S131072, .i32⟩ : BufTy).Contents (Elt F)) (Φ₁ (Proc.devRef .tc Cert.KernelIdeal.main_v984)) (Φ₂ (Proc.devRef .tc Cert.ReferenceIdeal.main_v989)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb1 (i := 56) rfl) :) e121
  have e123 : @Eq ((⟨Cert.KernelIdeal.S131072, .i32⟩ : BufTy).Contents (Elt F)) (Φ₁ (Proc.devRef .tc Cert.KernelIdeal.main_v985)) (Φ₂ (Proc.devRef .tc Cert.ReferenceIdeal.main_v990)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb1 (i := 57) rfl) :) e43 e122
  have e124 : @Eq ((⟨Cert.KernelIdeal.S131072, .i32⟩ : BufTy).Contents (Elt F)) (Φ₁ (Proc.devRef .tc Cert.KernelIdeal.main_v986)) (Φ₂ (Proc.devRef .tc Cert.ReferenceIdeal.main_v991)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb1 (i := 58) rfl) :) e120 e123 e43
  have e125 : @Eq ((⟨Cert.KernelIdeal.S131072x1, .i32⟩ : BufTy).Contents (Elt F)) (Φ₁ (Proc.devRef .tc Cert.KernelIdeal.main_v987)) (Φ₂ (Proc.devRef .tc Cert.ReferenceIdeal.main_v992)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb1 (i := 59) rfl) :) e117
  have e126 : @Eq ((⟨Cert.KernelIdeal.S131072x1, .i32⟩ : BufTy).Contents (Elt F)) (Φ₁ (Proc.devRef .tc Cert.KernelIdeal.main_v988)) (Φ₂ (Proc.devRef .tc Cert.ReferenceIdeal.main_v993)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb1 (i := 60) rfl) :) e124
  have e127 : @Eq ((⟨Cert.KernelIdeal.S131072x2, .i32⟩ : BufTy).Contents (Elt F)) (Φ₁ (Proc.devRef .tc Cert.KernelIdeal.main_v989)) (Φ₂ (Proc.devRef .tc Cert.ReferenceIdeal.main_v994)) := by rw [eq2 (at_ fa8 (i := 52) rfl), eq2 (at_ fb1 (i := 61) rfl), e125, e126] <;> rfl
  have e128 : @Eq ((⟨Cert.KernelIdeal.S32x131072, .f32⟩ : BufTy).Contents (Elt F)) (Φ₁ (Proc.devRef .tc Cert.KernelIdeal.main_v990)) (Φ₂ (Proc.devRef .tc Cert.ReferenceIdeal.main_v995)) := by rw [eq2 (at_ fa8 (i := 53) rfl), eq2 (at_ fb1 (i := 62) rfl), x2, e127] <;> rfl
  have e129 : @Eq ((⟨Cert.KernelIdeal.S_, .i32⟩ : BufTy).Contents (Elt F)) (Φ₁ (Proc.devRef .tc Cert.KernelIdeal.main_c_320)) (Φ₂ (Proc.devRef .tc Cert.ReferenceIdeal.main_c_320)) := step0 (β := ((⟨Cert.KernelIdeal.S_, .i32⟩ : BufTy).Contents (Elt F))) (eq0 (at_ fa8 (i := 54) rfl) :) (eq0 (at_ fb1 (i := 63) rfl) :)
  have e130 : @Eq ((⟨Cert.KernelIdeal.S131072, .i32⟩ : BufTy).Contents (Elt F)) (Φ₁ (Proc.devRef .tc Cert.KernelIdeal.main_v991)) (Φ₂ (Proc.devRef .tc Cert.ReferenceIdeal.main_v996)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb1 (i := 64) rfl) :) e129
  have e131 : @Eq ((⟨Cert.KernelIdeal.S131072, .i1⟩ : BufTy).Contents (Elt F)) (Φ₁ (Proc.devRef .tc Cert.KernelIdeal.main_v992)) (Φ₂ (Proc.devRef .tc Cert.ReferenceIdeal.main_v997)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 0) rfl) :) e74 e130
  have e132 : @Eq ((⟨Cert.KernelIdeal.S_, .i32⟩ : BufTy).Contents (Elt F)) (Φ₁ (Proc.devRef .tc Cert.KernelIdeal.main_c_321)) (Φ₂ (Proc.devRef .tc Cert.ReferenceIdeal.main_c_321)) := step0 (β := ((⟨Cert.KernelIdeal.S_, .i32⟩ : BufTy).Contents (Elt F))) (eq0 (at_ fa8 (i := 57) rfl) :) (eq0 (at_ fb2 (i := 1) rfl) :)
  have e133 : @Eq ((⟨Cert.KernelIdeal.S131072, .i32⟩ : BufTy).Contents (Elt F)) (Φ₁ (Proc.devRef .tc Cert.KernelIdeal.main_v993)) (Φ₂ (Proc.devRef .tc Cert.ReferenceIdeal.main_v998)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 2) rfl) :) e132
  have e134 : @Eq ((⟨Cert.KernelIdeal.S131072, .i32⟩ : BufTy).Contents (Elt F)) (Φ₁ (Proc.devRef .tc Cert.KernelIdeal.main_v994)) (Φ₂ (Proc.devRef .tc Cert.ReferenceIdeal.main_v999)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 3) rfl) :) e74 e133
  have e135 : @Eq ((⟨Cert.KernelIdeal.S131072, .i32⟩ : BufTy).Contents (Elt F)) (Φ₁ (Proc.devRef .tc Cert.KernelIdeal.main_v995)) (Φ₂ (Proc.devRef .tc Cert.ReferenceIdeal.main_v1000)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 4) rfl) :) e131 e134 e74
  have e136 : @Eq ((⟨Cert.KernelIdeal.S_, .i32⟩ : BufTy).Contents (Elt F)) (Φ₁ (Proc.devRef .tc Cert.KernelIdeal.main_c_322)) (Φ₂ (Proc.devRef .tc Cert.ReferenceIdeal.main_c_322)) := step0 (β := ((⟨Cert.KernelIdeal.S_, .i32⟩ : BufTy).Contents (Elt F))) (eq0 (at_ fa8 (i := 61) rfl) :) (eq0 (at_ fb2 (i := 5) rfl) :)
  have e137 : @Eq ((⟨Cert.KernelIdeal.S131072, .i32⟩ : BufTy).Contents (Elt F)) (Φ₁ (Proc.devRef .tc Cert.KernelIdeal.main_v996)) (Φ₂ (Proc.devRef .tc Cert.ReferenceIdeal.main_v1001)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 6) rfl) :) e136
  have e138 : @Eq ((⟨Cert.KernelIdeal.S131072, .i1⟩ : BufTy).Contents (Elt F)) (Φ₁ (Proc.devRef .tc Cert.KernelIdeal.main_v997)) (Φ₂ (Proc.devRef .tc Cert.ReferenceIdeal.main_v1002)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 7) rfl) :) e54 e137
  have e139 : @Eq ((⟨Cert.KernelIdeal.S_, .i32⟩ : BufTy).Contents (Elt F)) (Φ₁ (Proc.devRef .tc Cert.KernelIdeal.main_c_323)) (Φ₂ (Proc.devRef .tc Cert.ReferenceIdeal.main_c_323)) := step0 (β := ((⟨Cert.KernelIdeal.S_, .i32⟩ : BufTy).Contents (Elt F))) (eq0 (at_ fa8 (i := 64) rfl) :) (eq0 (at_ fb2 (i := 8) rfl) :)
  have e140 : @Eq ((⟨Cert.KernelIdeal.S131072, .i32⟩ : BufTy).Contents (Elt F)) (Φ₁ (Proc.devRef .tc Cert.KernelIdeal.main_v998)) (Φ₂ (Proc.devRef .tc Cert.ReferenceIdeal.main_v1003)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 9) rfl) :) e139
  have e141 : @Eq ((⟨Cert.KernelIdeal.S131072, .i32⟩ : BufTy).Contents (Elt F)) (Φ₁ (Proc.devRef .tc Cert.KernelIdeal.main_v999)) (Φ₂ (Proc.devRef .tc Cert.ReferenceIdeal.main_v1004)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 10) rfl) :) e54 e140
  have e142 : @Eq ((⟨Cert.KernelIdeal.S131072, .i32⟩ : BufTy).Contents (Elt F)) (Φ₁ (Proc.devRef .tc Cert.KernelIdeal.main_v1000)) (Φ₂ (Proc.devRef .tc Cert.ReferenceIdeal.main_v1005)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 11) rfl) :) e138 e141 e54
  have e143 : @Eq ((⟨Cert.KernelIdeal.S131072x1, .i32⟩ : BufTy).Contents (Elt F)) (Φ₁ (Proc.devRef .tc Cert.KernelIdeal.main_v1001)) (Φ₂ (Proc.devRef .tc Cert.ReferenceIdeal.main_v1006)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 12) rfl) :) e135
  have e144 : @Eq ((⟨Cert.KernelIdeal.S131072x1, .i32⟩ : BufTy).Contents (Elt F)) (Φ₁ (Proc.devRef .tc Cert.KernelIdeal.main_v1002)) (Φ₂ (Proc.devRef .tc Cert.ReferenceIdeal.main_v1007)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 13) rfl) :) e142
  have e145 : @Eq ((⟨Cert.KernelIdeal.S131072x2, .i32⟩ : BufTy).Contents (Elt F)) (Φ₁ (Proc.devRef .tc Cert.KernelIdeal.main_v1003)) (Φ₂ (Proc.devRef .tc Cert.ReferenceIdeal.main_v1008)) := by rw [eq2 (at_ fa8 (i := 70) rfl), eq2 (at_ fb2 (i := 14) rfl), e143, e144] <;> rfl
  have e146 : @Eq ((⟨Cert.KernelIdeal.S32x131072, .f32⟩ : BufTy).Contents (Elt F)) (Φ₁ (Proc.devRef .tc Cert.KernelIdeal.main_v1004)) (Φ₂ (Proc.devRef .tc Cert.ReferenceIdeal.main_v1009)) := by rw [eq2 (at_ fa8 (i := 71) rfl), eq2 (at_ fb2 (i := 15) rfl), x2, e145] <;> rfl
  have e147 : @Eq ((⟨Cert.KernelIdeal.S_, .f32⟩ : BufTy).Contents (Elt F)) (Φ₁ (Proc.devRef .tc Cert.KernelIdeal.main_cst_324)) (Φ₂ (Proc.devRef .tc Cert.ReferenceIdeal.main_cst_324)) := step0 (β := ((⟨Cert.KernelIdeal.S_, .f32⟩ : BufTy).Contents (Elt F))) (eq0 (at_ fa8 (i := 72) rfl) :) (eq0 (at_ fb2 (i := 16) rfl) :)
  have e148 : @Eq ((⟨Cert.KernelIdeal.S131072, .f32⟩ : BufTy).Contents (Elt F)) (Φ₁ (Proc.devRef .tc Cert.KernelIdeal.main_v1005)) (Φ₂ (Proc.devRef .tc Cert.ReferenceIdeal.main_v1010)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 17) rfl) :) e147
  have e149 : @Eq ((⟨Cert.KernelIdeal.S131072, .f32⟩ : BufTy).Contents (Elt F)) (Φ₁ (Proc.devRef .tc Cert.KernelIdeal.main_v1006)) (Φ₂ (Proc.devRef .tc Cert.ReferenceIdeal.main_v1011)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 18) rfl) :) e148 e33
  have e150 : @Eq ((⟨Cert.KernelIdeal.S1x131072, .f32⟩ : BufTy).Contents (Elt F)) (Φ₁ (Proc.devRef .tc Cert.KernelIdeal.main_v1007)) (Φ₂ (Proc.devRef .tc Cert.ReferenceIdeal.main_v1012)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 19) rfl) :) e149
  have e151 : @Eq ((⟨Cert.KernelIdeal.S32x131072, .f32⟩ : BufTy).Contents (Elt F)) (Φ₁ (Proc.devRef .tc Cert.KernelIdeal.main_v1008)) (Φ₂ (Proc.devRef .tc Cert.ReferenceIdeal.main_v1013)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 20) rfl) :) e150
  have e152 : @Eq ((⟨Cert.KernelIdeal.S32x131072, .f32⟩ : BufTy).Contents (Elt F)) (Φ₁ (Proc.devRef .tc Cert.KernelIdeal.main_v1009)) (Φ₂ (Proc.devRef .tc Cert.ReferenceIdeal.main_v1014)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 21) rfl) :) e92 e151
  have e153 : @Eq ((⟨Cert.KernelIdeal.S_, .f32⟩ : BufTy).Contents (Elt F)) (Φ₁ (Proc.devRef .tc Cert.KernelIdeal.main_cst_325)) (Φ₂ (Proc.devRef .tc Cert.ReferenceIdeal.main_cst_325)) := step0 (β := ((⟨Cert.KernelIdeal.S_, .f32⟩ : BufTy).Contents (Elt F))) (eq0 (at_ fa8 (i := 78) rfl) :) (eq0 (at_ fb2 (i := 22) rfl) :)
  have e154 : @Eq ((⟨Cert.KernelIdeal.S131072, .f32⟩ : BufTy).Contents (Elt F)) (Φ₁ (Proc.devRef .tc Cert.KernelIdeal.main_v1010)) (Φ₂ (Proc.devRef .tc Cert.ReferenceIdeal.main_v1015)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 23) rfl) :) e153
  have e155 : @Eq ((⟨Cert.KernelIdeal.S131072, .f32⟩ : BufTy).Contents (Elt F)) (Φ₁ (Proc.devRef .tc Cert.KernelIdeal.main_v1011)) (Φ₂ (Proc.devRef .tc Cert.ReferenceIdeal.main_v1016)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 24) rfl) :) e154 e34
  have e156 : @Eq ((⟨Cert.KernelIdeal.S1x131072, .f32⟩ : BufTy).Contents (Elt F)) (Φ₁ (Proc.devRef .tc Cert.KernelIdeal.main_v1012)) (Φ₂ (Proc.devRef .tc Cert.ReferenceIdeal.main_v1017)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 25) rfl) :) e155
  have e157 : @Eq ((⟨Cert.KernelIdeal.S32x131072, .f32⟩ : BufTy).Contents (Elt F)) (Φ₁ (Proc.devRef .tc Cert.KernelIdeal.main_v1013)) (Φ₂ (Proc.devRef .tc Cert.ReferenceIdeal.main_v1018)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 26) rfl) :) e156
  have e158 : @Eq ((⟨Cert.KernelIdeal.S32x131072, .f32⟩ : BufTy).Contents (Elt F)) (Φ₁ (Proc.devRef .tc Cert.KernelIdeal.main_v1014)) (Φ₂ (Proc.devRef .tc Cert.ReferenceIdeal.main_v1019)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 27) rfl) :) e152 e157
  have e159 : @Eq ((⟨Cert.KernelIdeal.S1x131072, .f32⟩ : BufTy).Contents (Elt F)) (Φ₁ (Proc.devRef .tc Cert.KernelIdeal.main_v1015)) (Φ₂ (Proc.devRef .tc Cert.ReferenceIdeal.main_v1020)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 28) rfl) :) e33
  have e160 : @Eq ((⟨Cert.KernelIdeal.S32x131072, .f32⟩ : BufTy).Contents (Elt F)) (Φ₁ (Proc.devRef .tc Cert.KernelIdeal.main_v1016)) (Φ₂ (Proc.devRef .tc Cert.ReferenceIdeal.main_v1021)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 29) rfl) :) e159
  have e161 : @Eq ((⟨Cert.KernelIdeal.S32x131072, .f32⟩ : BufTy).Contents (Elt F)) (Φ₁ (Proc.devRef .tc Cert.KernelIdeal.main_v1017)) (Φ₂ (Proc.devRef .tc Cert.ReferenceIdeal.main_v1022)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 30) rfl) :) e110 e160
  have e162 : @Eq ((⟨Cert.KernelIdeal.S_, .f32⟩ : BufTy).Contents (Elt F)) (Φ₁ (Proc.devRef .tc Cert.KernelIdeal.main_cst_326)) (Φ₂ (Proc.devRef .tc Cert.ReferenceIdeal.main_cst_326)) := step0 (β := ((⟨Cert.KernelIdeal.S_, .f32⟩ : BufTy).Contents (Elt F))) (eq0 (at_ fa8 (i := 87) rfl) :) (eq0 (at_ fb2 (i := 31) rfl) :)
  have e163 : @Eq ((⟨Cert.KernelIdeal.S131072, .f32⟩ : BufTy).Contents (Elt F)) (Φ₁ (Proc.devRef .tc Cert.KernelIdeal.main_v1018)) (Φ₂ (Proc.devRef .tc Cert.ReferenceIdeal.main_v1023)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 32) rfl) :) e162
  have e164 : @Eq ((⟨Cert.KernelIdeal.S131072, .f32⟩ : BufTy).Contents (Elt F)) (Φ₁ (Proc.devRef .tc Cert.KernelIdeal.main_v1019)) (Φ₂ (Proc.devRef .tc Cert.ReferenceIdeal.main_v1024)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 33) rfl) :) e163 e34
  have e165 : @Eq ((⟨Cert.KernelIdeal.S1x131072, .f32⟩ : BufTy).Contents (Elt F)) (Φ₁ (Proc.devRef .tc Cert.KernelIdeal.main_v1020)) (Φ₂ (Proc.devRef .tc Cert.ReferenceIdeal.main_v1025)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 34) rfl) :) e164
  have e166 : @Eq ((⟨Cert.KernelIdeal.S32x131072, .f32⟩ : BufTy).Contents (Elt F)) (Φ₁ (Proc.devRef .tc Cert.KernelIdeal.main_v1021)) (Φ₂ (Proc.devRef .tc Cert.ReferenceIdeal.main_v1026)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 35) rfl) :) e165
  have e167 : @Eq ((⟨Cert.KernelIdeal.S32x131072, .f32⟩ : BufTy).Contents (Elt F)) (Φ₁ (Proc.devRef .tc Cert.KernelIdeal.main_v1022)) (Φ₂ (Proc.devRef .tc Cert.ReferenceIdeal.main_v1027)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 36) rfl) :) e161 e166
  have e168 : @Eq ((⟨Cert.KernelIdeal.S32x131072, .f32⟩ : BufTy).Contents (Elt F)) (Φ₁ (Proc.devRef .tc Cert.KernelIdeal.main_v1023)) (Φ₂ (Proc.devRef .tc Cert.ReferenceIdeal.main_v1028)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 37) rfl) :) e158 e167
  have e169 : @Eq ((⟨Cert.KernelIdeal.S_, .f32⟩ : BufTy).Contents (Elt F)) (Φ₁ (Proc.devRef .tc Cert.KernelIdeal.main_cst_327)) (Φ₂ (Proc.devRef .tc Cert.ReferenceIdeal.main_cst_327)) := step0 (β := ((⟨Cert.KernelIdeal.S_, .f32⟩ : BufTy).Contents (Elt F))) (eq0 (at_ fa8 (i := 94) rfl) :) (eq0 (at_ fb2 (i := 38) rfl) :)
  have e170 : @Eq ((⟨Cert.KernelIdeal.S131072, .f32⟩ : BufTy).Contents (Elt F)) (Φ₁ (Proc.devRef .tc Cert.KernelIdeal.main_v1024)) (Φ₂ (Proc.devRef .tc Cert.ReferenceIdeal.main_v1029)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 39) rfl) :) e169
  have e171 : @Eq ((⟨Cert.KernelIdeal.S131072, .f32⟩ : BufTy).Contents (Elt F)) (Φ₁ (Proc.devRef .tc Cert.KernelIdeal.main_v1025)) (Φ₂ (Proc.devRef .tc Cert.ReferenceIdeal.main_v1030)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 40) rfl) :) e170 e33
  have e172 : @Eq ((⟨Cert.KernelIdeal.S1x131072, .f32⟩ : BufTy).Contents (Elt F)) (Φ₁ (Proc.devRef .tc Cert.KernelIdeal.main_v1026)) (Φ₂ (Proc.devRef .tc Cert.ReferenceIdeal.main_v1031)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 41) rfl) :) e171
  have e173 : @Eq ((⟨Cert.KernelIdeal.S32x131072, .f32⟩ : BufTy).Contents (Elt F)) (Φ₁ (Proc.devRef .tc Cert.KernelIdeal.main_v1027)) (Φ₂ (Proc.devRef .tc Cert.ReferenceIdeal.main_v1032)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 42) rfl) :) e172
  have e174 : @Eq ((⟨Cert.KernelIdeal.S32x131072, .f32⟩ : BufTy).Contents (Elt F)) (Φ₁ (Proc.devRef .tc Cert.KernelIdeal.main_v1028)) (Φ₂ (Proc.devRef .tc Cert.ReferenceIdeal.main_v1033)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 43) rfl) :) e128 e173
  have e175 : @Eq ((⟨Cert.KernelIdeal.S1x131072, .f32⟩ : BufTy).Contents (Elt F)) (Φ₁ (Proc.devRef .tc Cert.KernelIdeal.main_v1029)) (Φ₂ (Proc.devRef .tc Cert.ReferenceIdeal.main_v1034)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 44) rfl) :) e34
  have e176 : @Eq ((⟨Cert.KernelIdeal.S32x131072, .f32⟩ : BufTy).Contents (Elt F)) (Φ₁ (Proc.devRef .tc Cert.KernelIdeal.main_v1030)) (Φ₂ (Proc.devRef .tc Cert.ReferenceIdeal.main_v1035)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 45) rfl) :) e175
  have e177 : @Eq ((⟨Cert.KernelIdeal.S32x131072, .f32⟩ : BufTy).Contents (Elt F)) (Φ₁ (Proc.devRef .tc Cert.KernelIdeal.main_v1031)) (Φ₂ (Proc.devRef .tc Cert.ReferenceIdeal.main_v1036)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 46) rfl) :) e174 e176
  have e178 : @Eq ((⟨Cert.KernelIdeal.S32x131072, .f32⟩ : BufTy).Contents (Elt F)) (Φ₁ (Proc.devRef .tc Cert.KernelIdeal.main_v1032)) (Φ₂ (Proc.devRef .tc Cert.ReferenceIdeal.main_v1037)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 47) rfl) :) e168 e177
  have e179 : @Eq ((⟨Cert.KernelIdeal.S1x131072, .f32⟩ : BufTy).Contents (Elt F)) (Φ₁ (Proc.devRef .tc Cert.KernelIdeal.main_v1033)) (Φ₂ (Proc.devRef .tc Cert.ReferenceIdeal.main_v1038)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 48) rfl) :) e33
  have e180 : @Eq ((⟨Cert.KernelIdeal.S32x131072, .f32⟩ : BufTy).Contents (Elt F)) (Φ₁ (Proc.devRef .tc Cert.KernelIdeal.main_v1034)) (Φ₂ (Proc.devRef .tc Cert.ReferenceIdeal.main_v1039)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb2 (i := 49) rfl) :) e179
  have e181 : @Eq ((⟨Cert.KernelIdeal.S32x131072, .f32⟩ : BufTy).Contents (Elt F)) (Φ₁ (Proc.devRef .tc Cert.KernelIdeal.main_v1035)) (Φ₂ (Proc.devRef .tc Cert.ReferenceIdeal.main_v1040)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb2 (i := 50) rfl) :) e146 e180
  have e182 : @Eq ((⟨Cert.KernelIdeal.S1x131072, .f32⟩ : BufTy).Contents (Elt F)) (Φ₁ (Proc.devRef .tc Cert.KernelIdeal.main_v1036)) (Φ₂ (Proc.devRef .tc Cert.ReferenceIdeal.main_v1041)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb2 (i := 51) rfl) :) e34
  have e183 : @Eq ((⟨Cert.KernelIdeal.S32x131072, .f32⟩ : BufTy).Contents (Elt F)) (Φ₁ (Proc.devRef .tc Cert.KernelIdeal.main_v1037)) (Φ₂ (Proc.devRef .tc Cert.ReferenceIdeal.main_v1042)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb2 (i := 52) rfl) :) e182
  have e184 : @Eq ((⟨Cert.KernelIdeal.S32x131072, .f32⟩ : BufTy).Contents (Elt F)) (Φ₁ (Proc.devRef .tc Cert.KernelIdeal.main_v1038)) (Φ₂ (Proc.devRef .tc Cert.ReferenceIdeal.main_v1043)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb2 (i := 53) rfl) :) e181 e183
  have e185 : @Eq ((⟨Cert.KernelIdeal.S32x131072, .f32⟩ : BufTy).Contents (Elt F)) (Φ₁ (Proc.devRef .tc Cert.KernelIdeal.main_v1039)) (Φ₂ (Proc.devRef .tc Cert.ReferenceIdeal.main_v1044)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb2 (i := 54) rfl) :) e178 e184
  have e186 : @Eq ((⟨Cert.KernelIdeal.S131072x32, .f32⟩ : BufTy).Contents (Elt F)) (Φ₁ (Proc.devRef .tc Cert.KernelIdeal.main_v1040)) (Φ₂ (Proc.devRef .tc Cert.ReferenceIdeal.main_v1045)) := by rw [eq1 (at_ fa8 (i := 111) rfl), eq1 (at_ fb2 (i := 55) rfl), e185] <;> rfl
  exact e186

end Cert.Bridge

end
-- ==== Proof.RefOps3.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 24 of @main: 60 operations, writing buffers 1648 … 1707. -/
abbrev w24 : List (HloOp τ sig (Elt F)) :=
  [ StableHlo.unary main_c_348 main_v1089 (broadcastInDim S131072 ![] bcast_S_S131072 : (⟨S_, .i32⟩ : BufTy).Contents (Elt F) → (⟨S131072, .i32⟩ : BufTy).Contents (Elt F)),
    StableHlo.binary main_v1075 main_v1089 main_v1090 (cmpi .slt : (⟨S131072, .i32⟩ : BufTy).Contents (Elt F) → (⟨S131072, .i32⟩ : BufTy).Contents (Elt F) → (⟨S131072, .i1⟩ : BufTy).Contents (Elt F)),
    StableHlo.nullary main_c_349 (constantI S_ 32 128#32),
    StableHlo.unary main_c_349 main_v1091 (broadcastInDim S131072 ![] bcast_S_S131072 : (⟨S_, .i32⟩ : BufTy).Contents (Elt F) → (⟨S131072, .i32⟩ : BufTy).Contents (Elt F)),
    StableHlo.binary main_v1075 main_v1091 main_v1092 (addi : (⟨S131072, .i32⟩ : BufTy).Contents (Elt F) → (⟨S131072, .i32⟩ : BufTy).Contents (Elt F) → (⟨S131072, .i32⟩ : BufTy).Contents (Elt F)),
    StableHlo.ternary main_v1090 main_v1092 main_v1075 main_v1093 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1088 main_v1094 (broadcastInDim S131072x1 ![0] bcast_S131072_S131072x1_0 : (⟨S131072, .i32⟩ : BufTy).Contents (Elt F) → (⟨S131072x1, .i32⟩ : BufTy).Contents (Elt F)),
    StableHlo.unary main_v1093 main_v1095 (broadcastInDim S131072x1 ![0] bcast_S131072_S131072x1_0 : (⟨S131072, .i32⟩ : BufTy).Contents (Elt F) → (⟨S131072x1, .i32⟩ : BufTy).Contents (Elt F)),
    StableHlo.binary main_v1094 main_v1095 main_v1096 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg10 main_v1096 main_v1097 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_350 (constantI S_ 32 0#32),
    StableHlo.unary main_c_350 main_v1098 (broadcastInDim S131072 ![] bcast_S_S131072 : (⟨S_, .i32⟩ : BufTy).Contents (Elt F) → (⟨S131072, .i32⟩ : BufTy).Contents (Elt F)),
    StableHlo.binary main_v1080 main_v1098 main_v1099 (cmpi .slt : (⟨S131072, .i32⟩ : BufTy).Contents (Elt F) → (⟨S131072, .i32⟩ : BufTy).Contents (Elt F) → (⟨S131072, .i1⟩ : BufTy).Contents (Elt F)),
    StableHlo.nullary main_c_351 (constantI S_ 32 150#32),
    StableHlo.unary main_c_351 main_v1100 (broadcastInDim S131072 ![] bcast_S_S131072 : (⟨S_, .i32⟩ : BufTy).Contents (Elt F) → (⟨S131072, .i32⟩ : BufTy).Contents (Elt F)),
    StableHlo.binary main_v1080 main_v1100 main_v1101 (addi : (⟨S131072, .i32⟩ : BufTy).Contents (Elt F) → (⟨S131072, .i32⟩ : BufTy).Contents (Elt F) → (⟨S131072, .i32⟩ : BufTy).Contents (Elt F)),
    StableHlo.ternary main_v1099 main_v1101 main_v1080 main_v1102 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_352 (constantI S_ 32 0#32),
    StableHlo.unary main_c_352 main_v1103 (broadcastInDim S131072 ![] bcast_S_S131072 : (⟨S_, .i32⟩ : BufTy).Contents (Elt F) → (⟨S131072, .i32⟩ : BufTy).Contents (Elt F)),
    StableHlo.binary main_v1078 main_v1103 main_v1104 (cmpi .slt : (⟨S131072, .i32⟩ : BufTy).Contents (Elt F) → (⟨S131072, .i32⟩ : BufTy).Contents (Elt F) → (⟨S131072, .i1⟩ : BufTy).Contents (Elt F)),
    StableHlo.nullary main_c_353 (constantI S_ 32 128#32),
    StableHlo.unary main_c_353 main_v1105 (broadcastInDim S131072 ![] bcast_S_S131072 : (⟨S_, .i32⟩ : BufTy).Contents (Elt F) → (⟨S131072, .i32⟩ : BufTy).Contents (Elt F)),
    StableHlo.binary main_v1078 main_v1105 main_v1106 (addi : (⟨S131072, .i32⟩ : BufTy).Contents (Elt F) → (⟨S131072, .i32⟩ : BufTy).Contents (Elt F) → (⟨S131072, .i32⟩ : BufTy).Contents (Elt F)),
    StableHlo.ternary main_v1104 main_v1106 main_v1078 main_v1107 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1102 main_v1108 (broadcastInDim S131072x1 ![0] bcast_S131072_S131072x1_0 : (⟨S131072, .i32⟩ : BufTy).Contents (Elt F) → (⟨S131072x1, .i32⟩ : BufTy).Contents (Elt F)),
    StableHlo.unary main_v1107 main_v1109 (broadcastInDim S131072x1 ![0] bcast_S131072_S131072x1_0 : (⟨S131072, .i32⟩ : BufTy).Contents (Elt F) → (⟨S131072x1, .i32⟩ : BufTy).Contents (Elt F)),
    StableHlo.binary main_v1108 main_v1109 main_v1110 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg10 main_v1110 main_v1111 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_354 (constantI S_ 32 0#32),
    StableHlo.unary main_c_354 main_v1112 (broadcastInDim S131072 ![] bcast_S_S131072 : (⟨S_, .i32⟩ : BufTy).Contents (Elt F) → (⟨S131072, .i32⟩ : BufTy).Contents (Elt F)),
    StableHlo.binary main_v1083 main_v1112 main_v1113 (cmpi .slt : (⟨S131072, .i32⟩ : BufTy).Contents (Elt F) → (⟨S131072, .i32⟩ : BufTy).Contents (Elt F) → (⟨S131072, .i1⟩ : BufTy).Contents (Elt F)),
    StableHlo.nullary main_c_355 (constantI S_ 32 150#32),
    StableHlo.unary main_c_355 main_v1114 (broadcastInDim S131072 ![] bcast_S_S131072 : (⟨S_, .i32⟩ : BufTy).Contents (Elt F) → (⟨S131072, .i32⟩ : BufTy).Contents (Elt F)),
    StableHlo.binary main_v1083 main_v1114 main_v1115 (addi : (⟨S131072, .i32⟩ : BufTy).Contents (Elt F) → (⟨S131072, .i32⟩ : BufTy).Contents (Elt F) → (⟨S131072, .i32⟩ : BufTy).Contents (Elt F)),
    StableHlo.ternary main_v1113 main_v1115 main_v1083 main_v1116 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_356 (constantI S_ 32 0#32),
    StableHlo.unary main_c_356 main_v1117 (broadcastInDim S131072 ![] bcast_S_S131072 : (⟨S_, .i32⟩ : BufTy).Contents (Elt F) → (⟨S131072, .i32⟩ : BufTy).Contents (Elt F)),
    StableHlo.binary main_v1075 main_v1117 main_v1118 (cmpi .slt : (⟨S131072, .i32⟩ : BufTy).Contents (Elt F) → (⟨S131072, .i32⟩ : BufTy).Contents (Elt F) → (⟨S131072, .i1⟩ : BufTy).Contents (Elt F)),
    StableHlo.nullary main_c_357 (constantI S_ 32 128#32),
    StableHlo.unary main_c_357 main_v1119 (broadcastInDim S131072 ![] bcast_S_S131072 : (⟨S_, .i32⟩ : BufTy).Contents (Elt F) → (⟨S131072, .i32⟩ : BufTy).Contents (Elt F)),
    StableHlo.binary main_v1075 main_v1119 main_v1120 (addi : (⟨S131072, .i32⟩ : BufTy).Contents (Elt F) → (⟨S131072, .i32⟩ : BufTy).Contents (Elt F) → (⟨S131072, .i32⟩ : BufTy).Contents (Elt F)),
    StableHlo.ternary main_v1118 main_v1120 main_v1075 main_v1121 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1116 main_v1122 (broadcastInDim S131072x1 ![0] bcast_S131072_S131072x1_0 : (⟨S131072, .i32⟩ : BufTy).Contents (Elt F) → (⟨S131072x1, .i32⟩ : BufTy).Contents (Elt F)),
    StableHlo.unary main_v1121 main_v1123 (broadcastInDim S131072x1 ![0] bcast_S131072_S131072x1_0 : (⟨S131072, .i32⟩ : BufTy).Contents (Elt F) → (⟨S131072x1, .i32⟩ : BufTy).Contents (Elt F)),
    StableHlo.binary main_v1122 main_v1123 main_v1124 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg10 main_v1124 main_v1125 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_358 (constantI S_ 32 0#32),
    StableHlo.unary main_c_358 main_v1126 (broadcastInDim S131072 ![] bcast_S_S131072 : (⟨S_, .i32⟩ : BufTy).Contents (Elt F) → (⟨S131072, .i32⟩ : BufTy).Contents (Elt F)),
    StableHlo.binary main_v1083 main_v1126 main_v1127 (cmpi .slt : (⟨S131072, .i32⟩ : BufTy).Contents (Elt F) → (⟨S131072, .i32⟩ : BufTy).Contents (Elt F) → (⟨S131072, .i1⟩ : BufTy).Contents (Elt F)),
    StableHlo.nullary main_c_359 (constantI S_ 32 150#32),
    StableHlo.unary main_c_359 main_v1128 (broadcastInDim S131072 ![] bcast_S_S131072 : (⟨S_, .i32⟩ : BufTy).Contents (Elt F) → (⟨S131072, .i32⟩ : BufTy).Contents (Elt F)),
    StableHlo.binary main_v1083 main_v1128 main_v1129 (addi : (⟨S131072, .i32⟩ : BufTy).Contents (Elt F) → (⟨S131072, .i32⟩ : BufTy).Contents (Elt F) → (⟨S131072, .i32⟩ : BufTy).Contents (Elt F)),
    StableHlo.ternary main_v1127 main_v1129 main_v1083 main_v1130 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_360 (constantI S_ 32 0#32),
    StableHlo.unary main_c_360 main_v1131 (broadcastInDim S131072 ![] bcast_S_S131072 : (⟨S_, .i32⟩ : BufTy).Contents (Elt F) → (⟨S131072, .i32⟩ : BufTy).Contents (Elt F)),
    StableHlo.binary main_v1078 main_v1131 main_v1132 (cmpi .slt : (⟨S131072, .i32⟩ : BufTy).Contents (Elt F) → (⟨S131072, .i32⟩ : BufTy).Contents (Elt F) → (⟨S131072, .i1⟩ : BufTy).Contents (Elt F)),
    StableHlo.nullary main_c_361 (constantI S_ 32 128#32),
    StableHlo.unary main_c_361 main_v1133 (broadcastInDim S131072 ![] bcast_S_S131072 : (⟨S_, .i32⟩ : BufTy).Contents (Elt F) → (⟨S131072, .i32⟩ : BufTy).Contents (Elt F)),
    StableHlo.binary main_v1078 main_v1133 main_v1134 (addi : (⟨S131072, .i32⟩ : BufTy).Contents (Elt F) → (⟨S131072, .i32⟩ : BufTy).Contents (Elt F) → (⟨S131072, .i32⟩ : BufTy).Contents (Elt F)),
    StableHlo.ternary main_v1132 main_v1134 main_v1078 main_v1135 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]
theorem w24_eq (c : Dev nD) : main_part24 (F := F) c = seq w24 := rfl
theorem w24_sub : (w24 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem w24_fresh : (w24 : List (HloOp τ sig (Elt F))).Forall fun op => op.fresh = ∅ := by
  simp only [List.Forall]; repeat' constructor
set_option maxHeartbeats 4000000 in
theorem w24_chain : Chain 1648 (w24 : List (HloOp τ sig (Elt F))) :=
  Chain.cons (stepAt_unary 1648 _ _ _ rfl (by decide)) <|
  Chain.cons (stepAt_binary 1649 _ _ _ _ rfl (by decide) (by decide)) <|
  Chain.cons (stepAt_nullary 1650 _ _ rfl) <|
  Chain.cons (stepAt_unary 1651 _ _ _ rfl (by decide)) <|
  Chain.cons (stepAt_binary 1652 _ _ _ _ rfl (by decide) (by decide)) <|
  Chain.cons (stepAt_ternary 1653 _ _ _ _ _ rfl (by decide) (by decide) (by decide)) <|
  Chain.cons (stepAt_unary 1654 _ _ _ rfl (by decide)) <|
  Chain.cons (stepAt_unary 1655 _ _ _ rfl (by decide)) <|
  Chain.cons (stepAt_binary 1656 _ _ _ _ rfl (by decide) (by decide)) <|
  Chain.cons (stepAt_binary 1657 _ _ _ _ rfl (by decide) (by decide)) <|
  Chain.cons (stepAt_nullary 1658 _ _ rfl) <|
  Chain.cons (stepAt_unary 1659 _ _ _ rfl (by decide)) <|
  Chain.cons (stepAt_binary 1660 _ _ _ _ rfl (by decide) (by decide)) <|
  Chain.cons (stepAt_nullary 1661 _ _ rfl) <|
  Chain.cons (stepAt_unary 1662 _ _ _ rfl (by decide)) <|
  Chain.cons (stepAt_binary 1663 _ _ _ _ rfl (by decide) (by decide)) <|
  Chain.cons (stepAt_ternary 1664 _ _ _ _ _ rfl (by decide) (by decide) (by decide)) <|
  Chain.cons (stepAt_nullary 1665 _ _ rfl) <|
  Chain.cons (stepAt_unary 1666 _ _ _ rfl (by decide)) <|
  Chain.cons (stepAt_binary 1667 _ _ _ _ rfl (by decide) (by decide)) <|
  Chain.cons (stepAt_nullary 1668 _ _ rfl) <|
  Chain.cons (stepAt_unary 1669 _ _ _ rfl (by decide)) <|
  Chain.cons (stepAt_binary 1670 _ _ _ _ rfl (by decide) (by decide)) <|
  Chain.cons (stepAt_ternary 1671 _ _ _ _ _ rfl (by decide) (by decide) (by decide)) <|
  Chain.cons (stepAt_unary 1672 _ _ _ rfl (by decide)) <|
  Chain.cons (stepAt_unary 1673 _ _ _ rfl (by decide)) <|
  Chain.cons (stepAt_binary 1674 _ _ _ _ rfl (by decide) (by decide)) <|
  Chain.cons (stepAt_binary 1675 _ _ _ _ rfl (by decide) (by decide)) <|
  Chain.cons (stepAt_nullary 1676 _ _ rfl) <|
  Chain.cons (stepAt_unary 1677 _ _ _ rfl (by decide)) <|
  Chain.cons (stepAt_binary 1678 _ _ _ _ rfl (by decide) (by decide)) <|
  Chain.cons (stepAt_nullary 1679 _ _ rfl) <|
  Chain.cons (stepAt_unary 1680 _ _ _ rfl (by decide)) <|
  Chain.cons (stepAt_binary 1681 _ _ _ _ rfl (by decide) (by decide)) <|
  Chain.cons (stepAt_ternary 1682 _ _ _ _ _ rfl (by decide) (by decide) (by decide)) <|
  Chain.cons (stepAt_nullary 1683 _ _ rfl) <|
  Chain.cons (stepAt_unary 1684 _ _ _ rfl (by decide)) <|
  Chain.cons (stepAt_binary 1685 _ _ _ _ rfl (by decide) (by decide)) <|
  Chain.cons (stepAt_nullary 1686 _ _ rfl) <|
  Chain.cons (stepAt_unary 1687 _ _ _ rfl (by decide)) <|
  Chain.cons (stepAt_binary 1688 _ _ _ _ rfl (by decide) (by decide)) <|
  Chain.cons (stepAt_ternary 1689 _ _ _ _ _ rfl (by decide) (by decide) (by decide)) <|
  Chain.cons (stepAt_unary 1690 _ _ _ rfl (by decide)) <|
  Chain.cons (stepAt_unary 1691 _ _ _ rfl (by decide)) <|
  Chain.cons (stepAt_binary 1692 _ _ _ _ rfl (by decide) (by decide)) <|
  Chain.cons (stepAt_binary 1693 _ _ _ _ rfl (by decide) (by decide)) <|
  Chain.cons (stepAt_nullary 1694 _ _ rfl) <|
  Chain.cons (stepAt_unary 1695 _ _ _ rfl (by decide)) <|
  Chain.cons (stepAt_binary 1696 _ _ _ _ rfl (by decide) (by decide)) <|
  Chain.cons (stepAt_nullary 1697 _ _ rfl) <|
  Chain.cons (stepAt_unary 1698 _ _ _ rfl (by decide)) <|
  Chain.cons (stepAt_binary 1699 _ _ _ _ rfl (by decide) (by decide)) <|
  Chain.cons (stepAt_ternary 1700 _ _ _ _ _ rfl (by decide) (by decide) (by decide)) <|
  Chain.cons (stepAt_nullary 1701 _ _ rfl) <|
  Chain.cons (stepAt_unary 1702 _ _ _ rfl (by decide)) <|
  Chain.cons (stepAt_binary 1703 _ _ _ _ rfl (by decide) (by decide)) <|
  Chain.cons (stepAt_nullary 1704 _ _ rfl) <|
  Chain.cons (stepAt_unary 1705 _ _ _ rfl (by decide)) <|
  Chain.cons (stepAt_binary 1706 _ _ _ _ rfl (by decide) (by decide)) <|
  Chain.cons (stepAt_ternary 1707 _ _ _ _ _ rfl (by decide) (by decide) (by decide)) <|
  Chain.nil
theorem w24_length : (w24 : List (HloOp τ sig (Elt F))).length = 60 := rfl

/-- Window 25 of @main: 60 operations, writing buffers 1708 … 1767. -/
abbrev w25 : List (HloOp τ sig (Elt F)) :=
  [ StableHlo.unary main_v1130 main_v1136 (broadcastInDim S131072x1 ![0] bcast_S131072_S131072x1_0 : (⟨S131072, .i32⟩ : BufTy).Contents (Elt F) → (⟨S131072x1, .i32⟩ : BufTy).Contents (Elt F)),
    StableHlo.unary main_v1135 main_v1137 (broadcastInDim S131072x1 ![0] bcast_S131072_S131072x1_0 : (⟨S131072, .i32⟩ : BufTy).Contents (Elt F) → (⟨S131072x1, .i32⟩ : BufTy).Contents (Elt F)),
    StableHlo.binary main_v1136 main_v1137 main_v1138 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg10 main_v1138 main_v1139 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_cst_362 (constant S_ .f32 0x3F800000#32),
    StableHlo.unary main_cst_362 main_v1140 (broadcastInDim S131072 ![] bcast_S_S131072 : (⟨S_, .f32⟩ : BufTy).Contents (Elt F) → (⟨S131072, .f32⟩ : BufTy).Contents (Elt F)),
    StableHlo.binary main_v1140 main_v1072 main_v1141 (subf : (⟨S131072, .f32⟩ : BufTy).Contents (Elt F) → (⟨S131072, .f32⟩ : BufTy).Contents (Elt F) → (⟨S131072, .f32⟩ : BufTy).Contents (Elt F)),
    StableHlo.unary main_v1141 main_v1142 (broadcastInDim S1x131072 ![1] bcast_S131072_S1x131072_1 : (⟨S131072, .f32⟩ : BufTy).Contents (Elt F) → (⟨S1x131072, .f32⟩ : BufTy).Contents (Elt F)),
    StableHlo.unary main_v1142 main_v1143 (broadcastInDim S32x131072 ![0, 1] bcast_S1x131072_S32x131072_0_1 : (⟨S1x131072, .f32⟩ : BufTy).Contents (Elt F) → (⟨S32x131072, .f32⟩ : BufTy).Contents (Elt F)),
    StableHlo.binary main_v1097 main_v1143 main_v1144 (mulf : (⟨S32x131072, .f32⟩ : BufTy).Contents (Elt F) → (⟨S32x131072, .f32⟩ : BufTy).Contents (Elt F) → (⟨S32x131072, .f32⟩ : BufTy).Contents (Elt F)),
    StableHlo.nullary main_cst_363 (constant S_ .f32 0x3F800000#32),
    StableHlo.unary main_cst_363 main_v1145 (broadcastInDim S131072 ![] bcast_S_S131072 : (⟨S_, .f32⟩ : BufTy).Contents (Elt F) → (⟨S131072, .f32⟩ : BufTy).Contents (Elt F)),
    StableHlo.binary main_v1145 main_v1073 main_v1146 (subf : (⟨S131072, .f32⟩ : BufTy).Contents (Elt F) → (⟨S131072, .f32⟩ : BufTy).Contents (Elt F) → (⟨S131072, .f32⟩ : BufTy).Contents (Elt F)),
    StableHlo.unary main_v1146 main_v1147 (broadcastInDim S1x131072 ![1] bcast_S131072_S1x131072_1 : (⟨S131072, .f32⟩ : BufTy).Contents (Elt F) → (⟨S1x131072, .f32⟩ : BufTy).Contents (Elt F)),
    StableHlo.unary main_v1147 main_v1148 (broadcastInDim S32x131072 ![0, 1] bcast_S1x131072_S32x131072_0_1 : (⟨S1x131072, .f32⟩ : BufTy).Contents (Elt F) → (⟨S32x131072, .f32⟩ : BufTy).Contents (Elt F)),
    StableHlo.binary main_v1144 main_v1148 main_v1149 (mulf : (⟨S32x131072, .f32⟩ : BufTy).Contents (Elt F) → (⟨S32x131072, .f32⟩ : BufTy).Contents (Elt F) → (⟨S32x131072, .f32⟩ : BufTy).Contents (Elt F)),
    StableHlo.unary main_v1072 main_v1150 (broadcastInDim S1x131072 ![1] bcast_S131072_S1x131072_1 : (⟨S131072, .f32⟩ : BufTy).Contents (Elt F) → (⟨S1x131072, .f32⟩ : BufTy).Contents (Elt F)),
    StableHlo.unary main_v1150 main_v1151 (broadcastInDim S32x131072 ![0, 1] bcast_S1x131072_S32x131072_0_1 : (⟨S1x131072, .f32⟩ : BufTy).Contents (Elt F) → (⟨S32x131072, .f32⟩ : BufTy).Contents (Elt F)),
    StableHlo.binary main_v1111 main_v1151 main_v1152 (mulf : (⟨S32x131072, .f32⟩ : BufTy).Contents (Elt F) → (⟨S32x131072, .f32⟩ : BufTy).Contents (Elt F) → (⟨S32x131072, .f32⟩ : BufTy).Contents (Elt F)),
    StableHlo.nullary main_cst_364 (constant S_ .f32 0x3F800000#32),
    StableHlo.unary main_cst_364 main_v1153 (broadcastInDim S131072 ![] bcast_S_S131072 : (⟨S_, .f32⟩ : BufTy).Contents (Elt F) → (⟨S131072, .f32⟩ : BufTy).Contents (Elt F)),
    StableHlo.binary main_v1153 main_v1073 main_v1154 (subf : (⟨S131072, .f32⟩ : BufTy).Contents (Elt F) → (⟨S131072, .f32⟩ : BufTy).Contents (Elt F) → (⟨S131072, .f32⟩ : BufTy).Contents (Elt F)),
    StableHlo.unary main_v1154 main_v1155 (broadcastInDim S1x131072 ![1] bcast_S131072_S1x131072_1 : (⟨S131072, .f32⟩ : BufTy).Contents (Elt F) → (⟨S1x131072, .f32⟩ : BufTy).Contents (Elt F)),
    StableHlo.unary main_v1155 main_v1156 (broadcastInDim S32x131072 ![0, 1] bcast_S1x131072_S32x131072_0_1 : (⟨S1x131072, .f32⟩ : BufTy).Contents (Elt F) → (⟨S32x131072, .f32⟩ : BufTy).Contents (Elt F)),
    StableHlo.binary main_v1152 main_v1156 main_v1157 (mulf : (⟨S32x131072, .f32⟩ : BufTy).Contents (Elt F) → (⟨S32x131072, .f32⟩ : BufTy).Contents (Elt F) → (⟨S32x131072, .f32⟩ : BufTy).Contents (Elt F)),
    StableHlo.binary main_v1149 main_v1157 main_v1158 (addf : (⟨S32x131072, .f32⟩ : BufTy).Contents (Elt F) → (⟨S32x131072, .f32⟩ : BufTy).Contents (Elt F) → (⟨S32x131072, .f32⟩ : BufTy).Contents (Elt F)),
    StableHlo.nullary main_cst_365 (constant S_ .f32 0x3F800000#32),
    StableHlo.unary main_cst_365 main_v1159 (broadcastInDim S131072 ![] bcast_S_S131072 : (⟨S_, .f32⟩ : BufTy).Contents (Elt F) → (⟨S131072, .f32⟩ : BufTy).Contents (Elt F)),
    StableHlo.binary main_v1159 main_v1072 main_v1160 (subf : (⟨S131072, .f32⟩ : BufTy).Contents (Elt F) → (⟨S131072, .f32⟩ : BufTy).Contents (Elt F) → (⟨S131072, .f32⟩ : BufTy).Contents (Elt F)),
    StableHlo.unary main_v1160 main_v1161 (broadcastInDim S1x131072 ![1] bcast_S131072_S1x131072_1 : (⟨S131072, .f32⟩ : BufTy).Contents (Elt F) → (⟨S1x131072, .f32⟩ : BufTy).Contents (Elt F)),
    StableHlo.unary main_v1161 main_v1162 (broadcastInDim S32x131072 ![0, 1] bcast_S1x131072_S32x131072_0_1 : (⟨S1x131072, .f32⟩ : BufTy).Contents (Elt F) → (⟨S32x131072, .f32⟩ : BufTy).Contents (Elt F)),
    StableHlo.binary main_v1125 main_v1162 main_v1163 (mulf : (⟨S32x131072, .f32⟩ : BufTy).Contents (Elt F) → (⟨S32x131072, .f32⟩ : BufTy).Contents (Elt F) → (⟨S32x131072, .f32⟩ : BufTy).Contents (Elt F)),
    StableHlo.unary main_v1073 main_v1164 (broadcastInDim S1x131072 ![1] bcast_S131072_S1x131072_1 : (⟨S131072, .f32⟩ : BufTy).Contents (Elt F) → (⟨S1x131072, .f32⟩ : BufTy).Contents (Elt F)),
    StableHlo.unary main_v1164 main_v1165 (broadcastInDim S32x131072 ![0, 1] bcast_S1x131072_S32x131072_0_1 : (⟨S1x131072, .f32⟩ : BufTy).Contents (Elt F) → (⟨S32x131072, .f32⟩ : BufTy).Contents (Elt F)),
    StableHlo.binary main_v1163 main_v1165 main_v1166 (mulf : (⟨S32x131072, .f32⟩ : BufTy).Contents (Elt F) → (⟨S32x131072, .f32⟩ : BufTy).Contents (Elt F) → (⟨S32x131072, .f32⟩ : BufTy).Contents (Elt F)),
    StableHlo.binary main_v1158 main_v1166 main_v1167 (addf : (⟨S32x131072, .f32⟩ : BufTy).Contents (Elt F) → (⟨S32x131072, .f32⟩ : BufTy).Contents (Elt F) → (⟨S32x131072, .f32⟩ : BufTy).Contents (Elt F)),
    StableHlo.unary main_v1072 main_v1168 (broadcastInDim S1x131072 ![1] bcast_S131072_S1x131072_1 : (⟨S131072, .f32⟩ : BufTy).Contents (Elt F) → (⟨S1x131072, .f32⟩ : BufTy).Contents (Elt F)),
    StableHlo.unary main_v1168 main_v1169 (broadcastInDim S32x131072 ![0, 1] bcast_S1x131072_S32x131072_0_1 : (⟨S1x131072, .f32⟩ : BufTy).Contents (Elt F) → (⟨S32x131072, .f32⟩ : BufTy).Contents (Elt F)),
    StableHlo.binary main_v1139 main_v1169 main_v1170 (mulf : (⟨S32x131072, .f32⟩ : BufTy).Contents (Elt F) → (⟨S32x131072, .f32⟩ : BufTy).Contents (Elt F) → (⟨S32x131072, .f32⟩ : BufTy).Contents (Elt F)),
    StableHlo.unary main_v1073 main_v1171 (broadcastInDim S1x131072 ![1] bcast_S131072_S1x131072_1 : (⟨S131072, .f32⟩ : BufTy).Contents (Elt F) → (⟨S1x131072, .f32⟩ : BufTy).Contents (Elt F)),
    StableHlo.unary main_v1171 main_v1172 (broadcastInDim S32x131072 ![0, 1] bcast_S1x131072_S32x131072_0_1 : (⟨S1x131072, .f32⟩ : BufTy).Contents (Elt F) → (⟨S32x131072, .f32⟩ : BufTy).Contents (Elt F)),
    StableHlo.binary main_v1170 main_v1172 main_v1173 (mulf : (⟨S32x131072, .f32⟩ : BufTy).Contents (Elt F) → (⟨S32x131072, .f32⟩ : BufTy).Contents (Elt F) → (⟨S32x131072, .f32⟩ : BufTy).Contents (Elt F)),
    StableHlo.binary main_v1167 main_v1173 main_v1174 (addf : (⟨S32x131072, .f32⟩ : BufTy).Contents (Elt F) → (⟨S32x131072, .f32⟩ : BufTy).Contents (Elt F) → (⟨S32x131072, .f32⟩ : BufTy).Contents (Elt F)),
    StableHlo.unary main_v1174 main_v1175 ((transpose S131072x32 [1, 0] · transposes_S32x131072_S131072x32_1_0) : (⟨S32x131072, .f32⟩ : BufTy).Contents (Elt F) → (⟨S131072x32, .f32⟩ : BufTy).Contents (Elt F)),
    StableHlo.binary main_v1046 main_v1175 main_v1176 (mulf : (⟨S131072x32, .f32⟩ : BufTy).Contents (Elt F) → (⟨S131072x32, .f32⟩ : BufTy).Contents (Elt F) → (⟨S131072x32, .f32⟩ : BufTy).Contents (Elt F)),
    StableHlo.nullary main_c_366 (constantI S_ 32 0#32),
    StableHlo.unary main_c_366 main_v1177 (broadcastInDim S2 ![] bcast_S_S2 : (⟨S_, .i32⟩ : BufTy).Contents (Elt F) → (⟨S2, .i32⟩ : BufTy).Contents (Elt F)),
    StableHlo.binary main_c_8 main_v1177 main_v1178 (cmpi .slt : (⟨S2, .i32⟩ : BufTy).Contents (Elt F) → (⟨S2, .i32⟩ : BufTy).Contents (Elt F) → (⟨S2, .i1⟩ : BufTy).Contents (Elt F)),
    StableHlo.nullary main_c_367 (constantI S_ 32 4#32),
    StableHlo.unary main_c_367 main_v1179 (broadcastInDim S2 ![] bcast_S_S2 : (⟨S_, .i32⟩ : BufTy).Contents (Elt F) → (⟨S2, .i32⟩ : BufTy).Contents (Elt F)),
    StableHlo.binary main_c_8 main_v1179 main_v1180 (addi : (⟨S2, .i32⟩ : BufTy).Contents (Elt F) → (⟨S2, .i32⟩ : BufTy).Contents (Elt F) → (⟨S2, .i32⟩ : BufTy).Contents (Elt F)),
    StableHlo.ternary main_v1178 main_v1180 main_c_8 main_v1181 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1181 main_v1182 (broadcastInDim S2x1 ![0] bcast_S2_S2x1_0 : (⟨S2, .i32⟩ : BufTy).Contents (Elt F) → (⟨S2x1, .i32⟩ : BufTy).Contents (Elt F)),
    StableHlo.binary main_v8 main_v1182 main_v1183 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1183 main_v1184 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1184 main_v1185 rfl shapeCasts_S131072x1_S131072,
    StableHlo.nullary main_cst_368 (constant S_ .f32 0x3F800000#32),
    StableHlo.unary main_cst_368 main_v1186 (broadcastInDim S131072 ![] bcast_S_S131072 : (⟨S_, .f32⟩ : BufTy).Contents (Elt F) → (⟨S131072, .f32⟩ : BufTy).Contents (Elt F)),
    StableHlo.binary main_v1185 main_v1186 main_v1187 (addf : (⟨S131072, .f32⟩ : BufTy).Contents (Elt F) → (⟨S131072, .f32⟩ : BufTy).Contents (Elt F) → (⟨S131072, .f32⟩ : BufTy).Contents (Elt F)),
    StableHlo.nullary main_cst_369 (constant S_ .f32 0x3F000000#32) ]
theorem w25_eq (c : Dev nD) : main_part25 (F := F) c = seq w25 := rfl
theorem w25_sub : (w25 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub ..⟩
theorem w25_fresh : (w25 : List (HloOp τ sig (Elt F))).Forall fun op => op.fresh = ∅ := by
  simp only [List.Forall]; repeat' constructor
set_option maxHeartbeats 4000000 in
theorem w25_chain : Chain 1708 (w25 : List (HloOp τ sig (Elt F))) :=
  Chain.cons (stepAt_unary 1708 _ _ _ rfl (by decide)) <|
  Chain.cons (stepAt_unary 1709 _ _ _ rfl (by decide)) <|
  Chain.cons (stepAt_binary 1710 _ _ _ _ rfl (by decide) (by decide)) <|
  Chain.cons (stepAt_binary 1711 _ _ _ _ rfl (by decide) (by decide)) <|
  Chain.cons (stepAt_nullary 1712 _ _ rfl) <|
  Chain.cons (stepAt_unary 1713 _ _ _ rfl (by decide)) <|
  Chain.cons (stepAt_binary 1714 _ _ _ _ rfl (by decide) (by decide)) <|
  Chain.cons (stepAt_unary 1715 _ _ _ rfl (by decide)) <|
  Chain.cons (stepAt_unary 1716 _ _ _ rfl (by decide)) <|
  Chain.cons (stepAt_binary 1717 _ _ _ _ rfl (by decide) (by decide)) <|
  Chain.cons (stepAt_nullary 1718 _ _ rfl) <|
  Chain.cons (stepAt_unary 1719 _ _ _ rfl (by decide)) <|
  Chain.cons (stepAt_binary 1720 _ _ _ _ rfl (by decide) (by decide)) <|
  Chain.cons (stepAt_unary 1721 _ _ _ rfl (by decide)) <|
  Chain.cons (stepAt_unary 1722 _ _ _ rfl (by decide)) <|
  Chain.cons (stepAt_binary 1723 _ _ _ _ rfl (by decide) (by decide)) <|
  Chain.cons (stepAt_unary 1724 _ _ _ rfl (by decide)) <|
  Chain.cons (stepAt_unary 1725 _ _ _ rfl (by decide)) <|
  Chain.cons (stepAt_binary 1726 _ _ _ _ rfl (by decide) (by decide)) <|
  Chain.cons (stepAt_nullary 1727 _ _ rfl) <|
  Chain.cons (stepAt_unary 1728 _ _ _ rfl (by decide)) <|
  Chain.cons (stepAt_binary 1729 _ _ _ _ rfl (by decide) (by decide)) <|
  Chain.cons (stepAt_unary 1730 _ _ _ rfl (by decide)) <|
  Chain.cons (stepAt_unary 1731 _ _ _ rfl (by decide)) <|
  Chain.cons (stepAt_binary 1732 _ _ _ _ rfl (by decide) (by decide)) <|
  Chain.cons (stepAt_binary 1733 _ _ _ _ rfl (by decide) (by decide)) <|
  Chain.cons (stepAt_nullary 1734 _ _ rfl) <|
  Chain.cons (stepAt_unary 1735 _ _ _ rfl (by decide)) <|
  Chain.cons (stepAt_binary 1736 _ _ _ _ rfl (by decide) (by decide)) <|
  Chain.cons (stepAt_unary 1737 _ _ _ rfl (by decide)) <|
  Chain.cons (stepAt_unary 1738 _ _ _ rfl (by decide)) <|
  Chain.cons (stepAt_binary 1739 _ _ _ _ rfl (by decide) (by decide)) <|
  Chain.cons (stepAt_unary 1740 _ _ _ rfl (by decide)) <|
  Chain.cons (stepAt_unary 1741 _ _ _ rfl (by decide)) <|
  Chain.cons (stepAt_binary 1742 _ _ _ _ rfl (by decide) (by decide)) <|
  Chain.cons (stepAt_binary 1743 _ _ _ _ rfl (by decide) (by decide)) <|
  Chain.cons (stepAt_unary 1744 _ _ _ rfl (by decide)) <|
  Chain.cons (stepAt_unary 1745 _ _ _ rfl (by decide)) <|
  Chain.cons (stepAt_binary 1746 _ _ _ _ rfl (by decide) (by decide)) <|
  Chain.cons (stepAt_unary 1747 _ _ _ rfl (by decide)) <|
  Chain.cons (stepAt_unary 1748 _ _ _ rfl (by decide)) <|
  Chain.cons (stepAt_binary 1749 _ _ _ _ rfl (by decide) (by decide)) <|
  Chain.cons (stepAt_binary 1750 _ _ _ _ rfl (by decide) (by decide)) <|
  Chain.cons (stepAt_unary 1751 _ _ _ rfl (by decide)) <|
  Chain.cons (stepAt_binary 1752 _ _ _ _ rfl (by decide) (by decide)) <|
  Chain.cons (stepAt_nullary 1753 _ _ rfl) <|
  Chain.cons (stepAt_unary 1754 _ _ _ rfl (by decide)) <|
  Chain.cons (stepAt_binary 1755 _ _ _ _ rfl (by decide) (by decide)) <|
  Chain.cons (stepAt_nullary 1756 _ _ rfl) <|
  Chain.cons (stepAt_unary 1757 _ _ _ rfl (by decide)) <|
  Chain.cons (stepAt_binary 1758 _ _ _ _ rfl (by decide) (by decide)) <|
  Chain.cons (stepAt_ternary 1759 _ _ _ _ _ rfl (by decide) (by decide) (by decide)) <|
  Chain.cons (stepAt_unary 1760 _ _ _ rfl (by decide)) <|
  Chain.cons (stepAt_binary 1761 _ _ _ _ rfl (by decide) (by decide)) <|
  Chain.cons (stepAt_unary 1762 _ _ _ rfl (by decide)) <|
  Chain.cons (stepAt_reshape 1763 _ _ _ _ rfl (by decide)) <|
  Chain.cons (stepAt_nullary 1764 _ _ rfl) <|
  Chain.cons (stepAt_unary 1765 _ _ _ rfl (by decide)) <|
  Chain.cons (stepAt_binary 1766 _ _ _ _ rfl (by decide) (by decide)) <|
  Chain.cons (stepAt_nullary 1767 _ _ rfl) <|
  Chain.nil
theorem w25_length : (w25 : List (HloOp τ sig (Elt F))).length = 60 := rfl

/-- Window 26 of @main: 80 operations, writing buffers 1768 … 1847. -/
abbrev w26 : List (HloOp τ sig (Elt F)) :=
  [ StableHlo.unary main_cst_369 main_v1188 (broadcastInDim S131072 ![] bcast_S_S131072 : (⟨S_, .f32⟩ : BufTy).Contents (Elt F) → (⟨S131072, .f32⟩ : BufTy).Contents (Elt F)),
    StableHlo.binary main_v1187 main_v1188 main_v1189 (mulf : (⟨S131072, .f32⟩ : BufTy).Contents (Elt F) → (⟨S131072, .f32⟩ : BufTy).Contents (Elt F) → (⟨S131072, .f32⟩ : BufTy).Contents (Elt F)),
    StableHlo.nullary main_cst_370 (constant S_ .f32 0x42FE0000#32),
    StableHlo.unary main_cst_370 main_v1190 (broadcastInDim S131072 ![] bcast_S_S131072 : (⟨S_, .f32⟩ : BufTy).Contents (Elt F) → (⟨S131072, .f32⟩ : BufTy).Contents (Elt F)),
    StableHlo.binary main_v1189 main_v1190 main_v1191 (mulf : (⟨S131072, .f32⟩ : BufTy).Contents (Elt F) → (⟨S131072, .f32⟩ : BufTy).Contents (Elt F) → (⟨S131072, .f32⟩ : BufTy).Contents (Elt F)),
    StableHlo.unary main_v1183 main_v1192 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1192 main_v1193 rfl shapeCasts_S131072x1_S131072,
    StableHlo.nullary main_cst_371 (constant S_ .f32 0x3F800000#32),
    StableHlo.unary main_cst_371 main_v1194 (broadcastInDim S131072 ![] bcast_S_S131072 : (⟨S_, .f32⟩ : BufTy).Contents (Elt F) → (⟨S131072, .f32⟩ : BufTy).Contents (Elt F)),
    StableHlo.binary main_v1193 main_v1194 main_v1195 (addf : (⟨S131072, .f32⟩ : BufTy).Contents (Elt F) → (⟨S131072, .f32⟩ : BufTy).Contents (Elt F) → (⟨S131072, .f32⟩ : BufTy).Contents (Elt F)),
    StableHlo.nullary main_cst_372 (constant S_ .f32 0x3F000000#32),
    StableHlo.unary main_cst_372 main_v1196 (broadcastInDim S131072 ![] bcast_S_S131072 : (⟨S_, .f32⟩ : BufTy).Contents (Elt F) → (⟨S131072, .f32⟩ : BufTy).Contents (Elt F)),
    StableHlo.binary main_v1195 main_v1196 main_v1197 (mulf : (⟨S131072, .f32⟩ : BufTy).Contents (Elt F) → (⟨S131072, .f32⟩ : BufTy).Contents (Elt F) → (⟨S131072, .f32⟩ : BufTy).Contents (Elt F)),
    StableHlo.nullary main_cst_373 (constant S_ .f32 0x42FE0000#32),
    StableHlo.unary main_cst_373 main_v1198 (broadcastInDim S131072 ![] bcast_S_S131072 : (⟨S_, .f32⟩ : BufTy).Contents (Elt F) → (⟨S131072, .f32⟩ : BufTy).Contents (Elt F)),
    StableHlo.binary main_v1197 main_v1198 main_v1199 (mulf : (⟨S131072, .f32⟩ : BufTy).Contents (Elt F) → (⟨S131072, .f32⟩ : BufTy).Contents (Elt F) → (⟨S131072, .f32⟩ : BufTy).Contents (Elt F)),
    StableHlo.unary main_v1191 main_v1200 (Host.floor : (⟨S131072, .f32⟩ : BufTy).Contents (Elt F) → (⟨S131072, .f32⟩ : BufTy).Contents (Elt F)),
    StableHlo.unary main_v1199 main_v1201 (Host.floor : (⟨S131072, .f32⟩ : BufTy).Contents (Elt F) → (⟨S131072, .f32⟩ : BufTy).Contents (Elt F)),
    StableHlo.binary main_v1191 main_v1200 main_v1202 (subf : (⟨S131072, .f32⟩ : BufTy).Contents (Elt F) → (⟨S131072, .f32⟩ : BufTy).Contents (Elt F) → (⟨S131072, .f32⟩ : BufTy).Contents (Elt F)),
    StableHlo.binary main_v1199 main_v1201 main_v1203 (subf : (⟨S131072, .f32⟩ : BufTy).Contents (Elt F) → (⟨S131072, .f32⟩ : BufTy).Contents (Elt F) → (⟨S131072, .f32⟩ : BufTy).Contents (Elt F)),
    StableHlo.unary main_v1200 main_v1204 (fptosi 32 : (⟨S131072, .f32⟩ : BufTy).Contents (Elt F) → (⟨S131072, .i32⟩ : BufTy).Contents (Elt F)),
    StableHlo.nullary main_c_374 (constantI S_ 32 0#32),
    StableHlo.nullary main_c_375 (constantI S_ 32 127#32),
    StableHlo.TRef.unary (.of main_c_374) main_call36.v0 id,
    StableHlo.TRef.unary main_call36.v0 main_call36.v1 (broadcastInDim S131072 ![] bcast_S_S131072),
    StableHlo.TRef.binary main_call36.v1 (.of main_v1204) main_call36.v2 maxsi,
    StableHlo.TRef.unary (.of main_c_375) main_call36.v3 id,
    StableHlo.TRef.unary main_call36.v3 main_call36.v4 (broadcastInDim S131072 ![] bcast_S_S131072),
    StableHlo.TRef.binary main_call36.v4 main_call36.v2 main_call36.v5 minsi,
    StableHlo.nullary main_c_376 (constantI S_ 32 1#32),
    StableHlo.unary main_c_376 main_v1206 (broadcastInDim S131072 ![] bcast_S_S131072 : (⟨S_, .i32⟩ : BufTy).Contents (Elt F) → (⟨S131072, .i32⟩ : BufTy).Contents (Elt F)),
    StableHlo.binary main_v1205 main_v1206 main_v1207 (addi : (⟨S131072, .i32⟩ : BufTy).Contents (Elt F) → (⟨S131072, .i32⟩ : BufTy).Contents (Elt F) → (⟨S131072, .i32⟩ : BufTy).Contents (Elt F)),
    StableHlo.nullary main_c_377 (constantI S_ 32 0#32),
    StableHlo.nullary main_c_378 (constantI S_ 32 127#32),
    StableHlo.TRef.unary (.of main_c_377) main_call37.v0 id,
    StableHlo.TRef.unary main_call37.v0 main_call37.v1 (broadcastInDim S131072 ![] bcast_S_S131072),
    StableHlo.TRef.binary main_call37.v1 (.of main_v1207) main_call37.v2 maxsi,
    StableHlo.TRef.unary (.of main_c_378) main_call37.v3 id,
    StableHlo.TRef.unary main_call37.v3 main_call37.v4 (broadcastInDim S131072 ![] bcast_S_S131072),
    StableHlo.TRef.binary main_call37.v4 main_call37.v2 main_call37.v5 minsi,
    StableHlo.unary main_v1201 main_v1209 (fptosi 32 : (⟨S131072, .f32⟩ : BufTy).Contents (Elt F) → (⟨S131072, .i32⟩ : BufTy).Contents (Elt F)),
    StableHlo.nullary main_c_379 (constantI S_ 32 0#32),
    StableHlo.nullary main_c_380 (constantI S_ 32 127#32),
    StableHlo.TRef.unary (.of main_c_379) main_call38.v0 id,
    StableHlo.TRef.unary main_call38.v0 main_call38.v1 (broadcastInDim S131072 ![] bcast_S_S131072),
    StableHlo.TRef.binary main_call38.v1 (.of main_v1209) main_call38.v2 maxsi,
    StableHlo.TRef.unary (.of main_c_380) main_call38.v3 id,
    StableHlo.TRef.unary main_call38.v3 main_call38.v4 (broadcastInDim S131072 ![] bcast_S_S131072),
    StableHlo.TRef.binary main_call38.v4 main_call38.v2 main_call38.v5 minsi,
    StableHlo.nullary main_c_381 (constantI S_ 32 1#32),
    StableHlo.unary main_c_381 main_v1211 (broadcastInDim S131072 ![] bcast_S_S131072 : (⟨S_, .i32⟩ : BufTy).Contents (Elt F) → (⟨S131072, .i32⟩ : BufTy).Contents (Elt F)),
    StableHlo.binary main_v1210 main_v1211 main_v1212 (addi : (⟨S131072, .i32⟩ : BufTy).Contents (Elt F) → (⟨S131072, .i32⟩ : BufTy).Contents (Elt F) → (⟨S131072, .i32⟩ : BufTy).Contents (Elt F)),
    StableHlo.nullary main_c_382 (constantI S_ 32 0#32),
    StableHlo.nullary main_c_383 (constantI S_ 32 127#32),
    StableHlo.TRef.unary (.of main_c_382) main_call39.v0 id,
    StableHlo.TRef.unary main_call39.v0 main_call39.v1 (broadcastInDim S131072 ![] bcast_S_S131072),
    StableHlo.TRef.binary main_call39.v1 (.of main_v1212) main_call39.v2 maxsi,
    StableHlo.TRef.unary (.of main_c_383) main_call39.v3 id,
    StableHlo.TRef.unary main_call39.v3 main_call39.v4 (broadcastInDim S131072 ![] bcast_S_S131072),
    StableHlo.TRef.binary main_call39.v4 main_call39.v2 main_call39.v5 minsi,
    StableHlo.nullary main_c_384 (constantI S_ 32 0#32),
    StableHlo.unary main_c_384 main_v1214 (broadcastInDim S131072 ![] bcast_S_S131072 : (⟨S_, .i32⟩ : BufTy).Contents (Elt F) → (⟨S131072, .i32⟩ : BufTy).Contents (Elt F)),
    StableHlo.binary main_v1210 main_v1214 main_v1215 (cmpi .slt : (⟨S131072, .i32⟩ : BufTy).Contents (Elt F) → (⟨S131072, .i32⟩ : BufTy).Contents (Elt F) → (⟨S131072, .i1⟩ : BufTy).Contents (Elt F)),
    StableHlo.nullary main_c_385 (constantI S_ 32 128#32),
    StableHlo.unary main_c_385 main_v1216 (broadcastInDim S131072 ![] bcast_S_S131072 : (⟨S_, .i32⟩ : BufTy).Contents (Elt F) → (⟨S131072, .i32⟩ : BufTy).Contents (Elt F)),
    StableHlo.binary main_v1210 main_v1216 main_v1217 (addi : (⟨S131072, .i32⟩ : BufTy).Contents (Elt F) → (⟨S131072, .i32⟩ : BufTy).Contents (Elt F) → (⟨S131072, .i32⟩ : BufTy).Contents (Elt F)),
    StableHlo.ternary main_v1215 main_v1217 main_v1210 main_v1218 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_386 (constantI S_ 32 0#32),
    StableHlo.unary main_c_386 main_v1219 (broadcastInDim S131072 ![] bcast_S_S131072 : (⟨S_, .i32⟩ : BufTy).Contents (Elt F) → (⟨S131072, .i32⟩ : BufTy).Contents (Elt F)),
    StableHlo.binary main_v1205 main_v1219 main_v1220 (cmpi .slt : (⟨S131072, .i32⟩ : BufTy).Contents (Elt F) → (⟨S131072, .i32⟩ : BufTy).Contents (Elt F) → (⟨S131072, .i1⟩ : BufTy).Contents (Elt F)),
    StableHlo.nullary main_c_387 (constantI S_ 32 128#32),
    StableHlo.unary main_c_387 main_v1221 (broadcastInDim S131072 ![] bcast_S_S131072 : (⟨S_, .i32⟩ : BufTy).Contents (Elt F) → (⟨S131072, .i32⟩ : BufTy).Contents (Elt F)),
    StableHlo.binary main_v1205 main_v1221 main_v1222 (addi : (⟨S131072, .i32⟩ : BufTy).Contents (Elt F) → (⟨S131072, .i32⟩ : BufTy).Contents (Elt F) → (⟨S131072, .i32⟩ : BufTy).Contents (Elt F)),
    StableHlo.ternary main_v1220 main_v1222 main_v1205 main_v1223 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1218 main_v1224 (broadcastInDim S131072x1 ![0] bcast_S131072_S131072x1_0 : (⟨S131072, .i32⟩ : BufTy).Contents (Elt F) → (⟨S131072x1, .i32⟩ : BufTy).Contents (Elt F)),
    StableHlo.unary main_v1223 main_v1225 (broadcastInDim S131072x1 ![0] bcast_S131072_S131072x1_0 : (⟨S131072, .i32⟩ : BufTy).Contents (Elt F) → (⟨S131072x1, .i32⟩ : BufTy).Contents (Elt F)),
    StableHlo.binary main_v1224 main_v1225 main_v1226 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg11 main_v1226 main_v1227 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_388 (constantI S_ 32 0#32),
    StableHlo.unary main_c_388 main_v1228 (broadcastInDim S131072 ![] bcast_S_S131072 : (⟨S_, .i32⟩ : BufTy).Contents (Elt F) → (⟨S131072, .i32⟩ : BufTy).Contents (Elt F)) ]
theorem w26_eq (c : Dev nD) : main_part26 (F := F) c = seq w26 := rfl
theorem w26_sub : (w26 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub ..⟩
theorem w26_fresh : (w26 : List (HloOp τ sig (Elt F))).Forall fun op => op.fresh = ∅ := by
  simp only [List.Forall]; repeat' constructor
set_option maxHeartbeats 4000000 in
theorem w26_chain : Chain 1768 (w26 : List (HloOp τ sig (Elt F))) :=
  Chain.cons (stepAt_unary 1768 _ _ _ rfl (by decide)) <|
  Chain.cons (stepAt_binary 1769 _ _ _ _ rfl (by decide) (by decide)) <|
  Chain.cons (stepAt_nullary 1770 _ _ rfl) <|
  Chain.cons (stepAt_unary 1771 _ _ _ rfl (by decide)) <|
  Chain.cons (stepAt_binary 1772 _ _ _ _ rfl (by decide) (by decide)) <|
  Chain.cons (stepAt_unary 1773 _ _ _ rfl (by decide)) <|
  Chain.cons (stepAt_reshape 1774 _ _ _ _ rfl (by decide)) <|
  Chain.cons (stepAt_nullary 1775 _ _ rfl) <|
  Chain.cons (stepAt_unary 1776 _ _ _ rfl (by decide)) <|
  Chain.cons (stepAt_binary 1777 _ _ _ _ rfl (by decide) (by decide)) <|
  Chain.cons (stepAt_nullary 1778 _ _ rfl) <|
  Chain.cons (stepAt_unary 1779 _ _ _ rfl (by decide)) <|
  Chain.cons (stepAt_binary 1780 _ _ _ _ rfl (by decide) (by decide)) <|
  Chain.cons (stepAt_nullary 1781 _ _ rfl) <|
  Chain.cons (stepAt_unary 1782 _ _ _ rfl (by decide)) <|
  Chain.cons (stepAt_binary 1783 _ _ _ _ rfl (by decide) (by decide)) <|
  Chain.cons (stepAt_unary 1784 _ _ _ rfl (by decide)) <|
  Chain.cons (stepAt_unary 1785 _ _ _ rfl (by decide)) <|
  Chain.cons (stepAt_binary 1786 _ _ _ _ rfl (by decide) (by decide)) <|
  Chain.cons (stepAt_binary 1787 _ _ _ _ rfl (by decide) (by decide)) <|
  Chain.cons (stepAt_unary 1788 _ _ _ rfl (by decide)) <|
  Chain.cons (stepAt_nullary 1789 _ _ rfl) <|
  Chain.cons (stepAt_nullary 1790 _ _ rfl) <|
  Chain.cons (stepAt_unary 1791 _ _ _ rfl (by decide)) <|
  Chain.cons (stepAt_unary 1792 _ _ _ rfl (by decide)) <|
  Chain.cons (stepAt_binary 1793 _ _ _ _ rfl (by decide) (by decide)) <|
  Chain.cons (stepAt_unary 1794 _ _ _ rfl (by decide)) <|
  Chain.cons (stepAt_unary 1795 _ _ _ rfl (by decide)) <|
  Chain.cons (stepAt_binary 1796 _ _ _ _ rfl (by decide) (by decide)) <|
  Chain.cons (stepAt_nullary 1797 _ _ rfl) <|
  Chain.cons (stepAt_unary 1798 _ _ _ rfl (by decide)) <|
  Chain.cons (stepAt_binary 1799 _ _ _ _ rfl (by decide) (by decide)) <|
  Chain.cons (stepAt_nullary 1800 _ _ rfl) <|
  Chain.cons (stepAt_nullary 1801 _ _ rfl) <|
  Chain.cons (stepAt_unary 1802 _ _ _ rfl (by decide)) <|
  Chain.cons (stepAt_unary 1803 _ _ _ rfl (by decide)) <|
  Chain.cons (stepAt_binary 1804 _ _ _ _ rfl (by decide) (by decide)) <|
  Chain.cons (stepAt_unary 1805 _ _ _ rfl (by decide)) <|
  Chain.cons (stepAt_unary 1806 _ _ _ rfl (by decide)) <|
  Chain.cons (stepAt_binary 1807 _ _ _ _ rfl (by decide) (by decide)) <|
  Chain.cons (stepAt_unary 1808 _ _ _ rfl (by decide)) <|
  Chain.cons (stepAt_nullary 1809 _ _ rfl) <|
  Chain.cons (stepAt_nullary 1810 _ _ rfl) <|
  Chain.cons (stepAt_unary 1811 _ _ _ rfl (by decide)) <|
  Chain.cons (stepAt_unary 1812 _ _ _ rfl (by decide)) <|
  Chain.cons (stepAt_binary 1813 _ _ _ _ rfl (by decide) (by decide)) <|
  Chain.cons (stepAt_unary 1814 _ _ _ rfl (by decide)) <|
  Chain.cons (stepAt_unary 1815 _ _ _ rfl (by decide)) <|
  Chain.cons (stepAt_binary 1816 _ _ _ _ rfl (by decide) (by decide)) <|
  Chain.cons (stepAt_nullary 1817 _ _ rfl) <|
  Chain.cons (stepAt_unary 1818 _ _ _ rfl (by decide)) <|
  Chain.cons (stepAt_binary 1819 _ _ _ _ rfl (by decide) (by decide)) <|
  Chain.cons (stepAt_nullary 1820 _ _ rfl) <|
  Chain.cons (stepAt_nullary 1821 _ _ rfl) <|
  Chain.cons (stepAt_unary 1822 _ _ _ rfl (by decide)) <|
  Chain.cons (stepAt_unary 1823 _ _ _ rfl (by decide)) <|
  Chain.cons (stepAt_binary 1824 _ _ _ _ rfl (by decide) (by decide)) <|
  Chain.cons (stepAt_unary 1825 _ _ _ rfl (by decide)) <|
  Chain.cons (stepAt_unary 1826 _ _ _ rfl (by decide)) <|
  Chain.cons (stepAt_binary 1827 _ _ _ _ rfl (by decide) (by decide)) <|
  Chain.cons (stepAt_nullary 1828 _ _ rfl) <|
  Chain.cons (stepAt_unary 1829 _ _ _ rfl (by decide)) <|
  Chain.cons (stepAt_binary 1830 _ _ _ _ rfl (by decide) (by decide)) <|
  Chain.cons (stepAt_nullary 1831 _ _ rfl) <|
  Chain.cons (stepAt_unary 1832 _ _ _ rfl (by decide)) <|
  Chain.cons (stepAt_binary 1833 _ _ _ _ rfl (by decide) (by decide)) <|
  Chain.cons (stepAt_ternary 1834 _ _ _ _ _ rfl (by decide) (by decide) (by decide)) <|
  Chain.cons (stepAt_nullary 1835 _ _ rfl) <|
  Chain.cons (stepAt_unary 1836 _ _ _ rfl (by decide)) <|
  Chain.cons (stepAt_binary 1837 _ _ _ _ rfl (by decide) (by decide)) <|
  Chain.cons (stepAt_nullary 1838 _ _ rfl) <|
  Chain.cons (stepAt_unary 1839 _ _ _ rfl (by decide)) <|
  Chain.cons (stepAt_binary 1840 _ _ _ _ rfl (by decide) (by decide)) <|
  Chain.cons (stepAt_ternary 1841 _ _ _ _ _ rfl (by decide) (by decide) (by decide)) <|
  Chain.cons (stepAt_unary 1842 _ _ _ rfl (by decide)) <|
  Chain.cons (stepAt_unary 1843 _ _ _ rfl (by decide)) <|
  Chain.cons (stepAt_binary 1844 _ _ _ _ rfl (by decide) (by decide)) <|
  Chain.cons (stepAt_binary 1845 _ _ _ _ rfl (by decide) (by decide)) <|
  Chain.cons (stepAt_nullary 1846 _ _ rfl) <|
  Chain.cons (stepAt_unary 1847 _ _ _ rfl (by decide)) <|
  Chain.nil
theorem w26_length : (w26 : List (HloOp τ sig (Elt F))).length = 80 := rfl

/-- Window 27 of @main: 60 operations, writing buffers 1848 … 1907. -/
abbrev w27 : List (HloOp τ sig (Elt F)) :=
  [ StableHlo.binary main_v1210 main_v1228 main_v1229 (cmpi .slt : (⟨S131072, .i32⟩ : BufTy).Contents (Elt F) → (⟨S131072, .i32⟩ : BufTy).Contents (Elt F) → (⟨S131072, .i1⟩ : BufTy).Contents (Elt F)),
    StableHlo.nullary main_c_389 (constantI S_ 32 128#32),
    StableHlo.unary main_c_389 main_v1230 (broadcastInDim S131072 ![] bcast_S_S131072 : (⟨S_, .i32⟩ : BufTy).Contents (Elt F) → (⟨S131072, .i32⟩ : BufTy).Contents (Elt F)),
    StableHlo.binary main_v1210 main_v1230 main_v1231 (addi : (⟨S131072, .i32⟩ : BufTy).Contents (Elt F) → (⟨S131072, .i32⟩ : BufTy).Contents (Elt F) → (⟨S131072, .i32⟩ : BufTy).Contents (Elt F)),
    StableHlo.ternary main_v1229 main_v1231 main_v1210 main_v1232 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_390 (constantI S_ 32 0#32),
    StableHlo.unary main_c_390 main_v1233 (broadcastInDim S131072 ![] bcast_S_S131072 : (⟨S_, .i32⟩ : BufTy).Contents (Elt F) → (⟨S131072, .i32⟩ : BufTy).Contents (Elt F)),
    StableHlo.binary main_v1208 main_v1233 main_v1234 (cmpi .slt : (⟨S131072, .i32⟩ : BufTy).Contents (Elt F) → (⟨S131072, .i32⟩ : BufTy).Contents (Elt F) → (⟨S131072, .i1⟩ : BufTy).Contents (Elt F)),
    StableHlo.nullary main_c_391 (constantI S_ 32 128#32),
    StableHlo.unary main_c_391 main_v1235 (broadcastInDim S131072 ![] bcast_S_S131072 : (⟨S_, .i32⟩ : BufTy).Contents (Elt F) → (⟨S131072, .i32⟩ : BufTy).Contents (Elt F)),
    StableHlo.binary main_v1208 main_v1235 main_v1236 (addi : (⟨S131072, .i32⟩ : BufTy).Contents (Elt F) → (⟨S131072, .i32⟩ : BufTy).Contents (Elt F) → (⟨S131072, .i32⟩ : BufTy).Contents (Elt F)),
    StableHlo.ternary main_v1234 main_v1236 main_v1208 main_v1237 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1232 main_v1238 (broadcastInDim S131072x1 ![0] bcast_S131072_S131072x1_0 : (⟨S131072, .i32⟩ : BufTy).Contents (Elt F) → (⟨S131072x1, .i32⟩ : BufTy).Contents (Elt F)),
    StableHlo.unary main_v1237 main_v1239 (broadcastInDim S131072x1 ![0] bcast_S131072_S131072x1_0 : (⟨S131072, .i32⟩ : BufTy).Contents (Elt F) → (⟨S131072x1, .i32⟩ : BufTy).Contents (Elt F)),
    StableHlo.binary main_v1238 main_v1239 main_v1240 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg11 main_v1240 main_v1241 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_392 (constantI S_ 32 0#32),
    StableHlo.unary main_c_392 main_v1242 (broadcastInDim S131072 ![] bcast_S_S131072 : (⟨S_, .i32⟩ : BufTy).Contents (Elt F) → (⟨S131072, .i32⟩ : BufTy).Contents (Elt F)),
    StableHlo.binary main_v1213 main_v1242 main_v1243 (cmpi .slt : (⟨S131072, .i32⟩ : BufTy).Contents (Elt F) → (⟨S131072, .i32⟩ : BufTy).Contents (Elt F) → (⟨S131072, .i1⟩ : BufTy).Contents (Elt F)),
    StableHlo.nullary main_c_393 (constantI S_ 32 128#32),
    StableHlo.unary main_c_393 main_v1244 (broadcastInDim S131072 ![] bcast_S_S131072 : (⟨S_, .i32⟩ : BufTy).Contents (Elt F) → (⟨S131072, .i32⟩ : BufTy).Contents (Elt F)),
    StableHlo.binary main_v1213 main_v1244 main_v1245 (addi : (⟨S131072, .i32⟩ : BufTy).Contents (Elt F) → (⟨S131072, .i32⟩ : BufTy).Contents (Elt F) → (⟨S131072, .i32⟩ : BufTy).Contents (Elt F)),
    StableHlo.ternary main_v1243 main_v1245 main_v1213 main_v1246 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_394 (constantI S_ 32 0#32),
    StableHlo.unary main_c_394 main_v1247 (broadcastInDim S131072 ![] bcast_S_S131072 : (⟨S_, .i32⟩ : BufTy).Contents (Elt F) → (⟨S131072, .i32⟩ : BufTy).Contents (Elt F)),
    StableHlo.binary main_v1205 main_v1247 main_v1248 (cmpi .slt : (⟨S131072, .i32⟩ : BufTy).Contents (Elt F) → (⟨S131072, .i32⟩ : BufTy).Contents (Elt F) → (⟨S131072, .i1⟩ : BufTy).Contents (Elt F)),
    StableHlo.nullary main_c_395 (constantI S_ 32 128#32),
    StableHlo.unary main_c_395 main_v1249 (broadcastInDim S131072 ![] bcast_S_S131072 : (⟨S_, .i32⟩ : BufTy).Contents (Elt F) → (⟨S131072, .i32⟩ : BufTy).Contents (Elt F)),
    StableHlo.binary main_v1205 main_v1249 main_v1250 (addi : (⟨S131072, .i32⟩ : BufTy).Contents (Elt F) → (⟨S131072, .i32⟩ : BufTy).Contents (Elt F) → (⟨S131072, .i32⟩ : BufTy).Contents (Elt F)),
    StableHlo.ternary main_v1248 main_v1250 main_v1205 main_v1251 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1246 main_v1252 (broadcastInDim S131072x1 ![0] bcast_S131072_S131072x1_0 : (⟨S131072, .i32⟩ : BufTy).Contents (Elt F) → (⟨S131072x1, .i32⟩ : BufTy).Contents (Elt F)),
    StableHlo.unary main_v1251 main_v1253 (broadcastInDim S131072x1 ![0] bcast_S131072_S131072x1_0 : (⟨S131072, .i32⟩ : BufTy).Contents (Elt F) → (⟨S131072x1, .i32⟩ : BufTy).Contents (Elt F)),
    StableHlo.binary main_v1252 main_v1253 main_v1254 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg11 main_v1254 main_v1255 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_c_396 (constantI S_ 32 0#32),
    StableHlo.unary main_c_396 main_v1256 (broadcastInDim S131072 ![] bcast_S_S131072 : (⟨S_, .i32⟩ : BufTy).Contents (Elt F) → (⟨S131072, .i32⟩ : BufTy).Contents (Elt F)),
    StableHlo.binary main_v1213 main_v1256 main_v1257 (cmpi .slt : (⟨S131072, .i32⟩ : BufTy).Contents (Elt F) → (⟨S131072, .i32⟩ : BufTy).Contents (Elt F) → (⟨S131072, .i1⟩ : BufTy).Contents (Elt F)),
    StableHlo.nullary main_c_397 (constantI S_ 32 128#32),
    StableHlo.unary main_c_397 main_v1258 (broadcastInDim S131072 ![] bcast_S_S131072 : (⟨S_, .i32⟩ : BufTy).Contents (Elt F) → (⟨S131072, .i32⟩ : BufTy).Contents (Elt F)),
    StableHlo.binary main_v1213 main_v1258 main_v1259 (addi : (⟨S131072, .i32⟩ : BufTy).Contents (Elt F) → (⟨S131072, .i32⟩ : BufTy).Contents (Elt F) → (⟨S131072, .i32⟩ : BufTy).Contents (Elt F)),
    StableHlo.ternary main_v1257 main_v1259 main_v1213 main_v1260 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_398 (constantI S_ 32 0#32),
    StableHlo.unary main_c_398 main_v1261 (broadcastInDim S131072 ![] bcast_S_S131072 : (⟨S_, .i32⟩ : BufTy).Contents (Elt F) → (⟨S131072, .i32⟩ : BufTy).Contents (Elt F)),
    StableHlo.binary main_v1208 main_v1261 main_v1262 (cmpi .slt : (⟨S131072, .i32⟩ : BufTy).Contents (Elt F) → (⟨S131072, .i32⟩ : BufTy).Contents (Elt F) → (⟨S131072, .i1⟩ : BufTy).Contents (Elt F)),
    StableHlo.nullary main_c_399 (constantI S_ 32 128#32),
    StableHlo.unary main_c_399 main_v1263 (broadcastInDim S131072 ![] bcast_S_S131072 : (⟨S_, .i32⟩ : BufTy).Contents (Elt F) → (⟨S131072, .i32⟩ : BufTy).Contents (Elt F)),
    StableHlo.binary main_v1208 main_v1263 main_v1264 (addi : (⟨S131072, .i32⟩ : BufTy).Contents (Elt F) → (⟨S131072, .i32⟩ : BufTy).Contents (Elt F) → (⟨S131072, .i32⟩ : BufTy).Contents (Elt F)),
    StableHlo.ternary main_v1262 main_v1264 main_v1208 main_v1265 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1260 main_v1266 (broadcastInDim S131072x1 ![0] bcast_S131072_S131072x1_0 : (⟨S131072, .i32⟩ : BufTy).Contents (Elt F) → (⟨S131072x1, .i32⟩ : BufTy).Contents (Elt F)),
    StableHlo.unary main_v1265 main_v1267 (broadcastInDim S131072x1 ![0] bcast_S131072_S131072x1_0 : (⟨S131072, .i32⟩ : BufTy).Contents (Elt F) → (⟨S131072x1, .i32⟩ : BufTy).Contents (Elt F)),
    StableHlo.binary main_v1266 main_v1267 main_v1268 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg11 main_v1268 main_v1269 ((fun x i => Host.gather gather_S32x128x128_S131072x2_S32x131072_0_12_n_n_12_1_3211 x i) : (⟨S32x128x128, .f32⟩ : BufTy).Contents (Elt F) → (⟨S131072x2, .i32⟩ : BufTy).Contents (Elt F) → (⟨S32x131072, .f32⟩ : BufTy).Contents (Elt F)),
    StableHlo.nullary main_cst_400 (constant S_ .f32 0x3F800000#32),
    StableHlo.unary main_cst_400 main_v1270 (broadcastInDim S131072 ![] bcast_S_S131072 : (⟨S_, .f32⟩ : BufTy).Contents (Elt F) → (⟨S131072, .f32⟩ : BufTy).Contents (Elt F)),
    StableHlo.binary main_v1270 main_v1202 main_v1271 (subf : (⟨S131072, .f32⟩ : BufTy).Contents (Elt F) → (⟨S131072, .f32⟩ : BufTy).Contents (Elt F) → (⟨S131072, .f32⟩ : BufTy).Contents (Elt F)),
    StableHlo.unary main_v1271 main_v1272 (broadcastInDim S1x131072 ![1] bcast_S131072_S1x131072_1 : (⟨S131072, .f32⟩ : BufTy).Contents (Elt F) → (⟨S1x131072, .f32⟩ : BufTy).Contents (Elt F)),
    StableHlo.unary main_v1272 main_v1273 (broadcastInDim S32x131072 ![0, 1] bcast_S1x131072_S32x131072_0_1 : (⟨S1x131072, .f32⟩ : BufTy).Contents (Elt F) → (⟨S32x131072, .f32⟩ : BufTy).Contents (Elt F)),
    StableHlo.binary main_v1227 main_v1273 main_v1274 (mulf : (⟨S32x131072, .f32⟩ : BufTy).Contents (Elt F) → (⟨S32x131072, .f32⟩ : BufTy).Contents (Elt F) → (⟨S32x131072, .f32⟩ : BufTy).Contents (Elt F)),
    StableHlo.nullary main_cst_401 (constant S_ .f32 0x3F800000#32),
    StableHlo.unary main_cst_401 main_v1275 (broadcastInDim S131072 ![] bcast_S_S131072 : (⟨S_, .f32⟩ : BufTy).Contents (Elt F) → (⟨S131072, .f32⟩ : BufTy).Contents (Elt F)) ]
theorem w27_eq (c : Dev nD) : main_part27 (F := F) c = seq w27 := rfl
theorem w27_sub : (w27 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub ..⟩
theorem w27_fresh : (w27 : List (HloOp τ sig (Elt F))).Forall fun op => op.fresh = ∅ := by
  simp only [List.Forall]; repeat' constructor
set_option maxHeartbeats 4000000 in
theorem w27_chain : Chain 1848 (w27 : List (HloOp τ sig (Elt F))) :=
  Chain.cons (stepAt_binary 1848 _ _ _ _ rfl (by decide) (by decide)) <|
  Chain.cons (stepAt_nullary 1849 _ _ rfl) <|
  Chain.cons (stepAt_unary 1850 _ _ _ rfl (by decide)) <|
  Chain.cons (stepAt_binary 1851 _ _ _ _ rfl (by decide) (by decide)) <|
  Chain.cons (stepAt_ternary 1852 _ _ _ _ _ rfl (by decide) (by decide) (by decide)) <|
  Chain.cons (stepAt_nullary 1853 _ _ rfl) <|
  Chain.cons (stepAt_unary 1854 _ _ _ rfl (by decide)) <|
  Chain.cons (stepAt_binary 1855 _ _ _ _ rfl (by decide) (by decide)) <|
  Chain.cons (stepAt_nullary 1856 _ _ rfl) <|
  Chain.cons (stepAt_unary 1857 _ _ _ rfl (by decide)) <|
  Chain.cons (stepAt_binary 1858 _ _ _ _ rfl (by decide) (by decide)) <|
  Chain.cons (stepAt_ternary 1859 _ _ _ _ _ rfl (by decide) (by decide) (by decide)) <|
  Chain.cons (stepAt_unary 1860 _ _ _ rfl (by decide)) <|
  Chain.cons (stepAt_unary 1861 _ _ _ rfl (by decide)) <|
  Chain.cons (stepAt_binary 1862 _ _ _ _ rfl (by decide) (by decide)) <|
  Chain.cons (stepAt_binary 1863 _ _ _ _ rfl (by decide) (by decide)) <|
  Chain.cons (stepAt_nullary 1864 _ _ rfl) <|
  Chain.cons (stepAt_unary 1865 _ _ _ rfl (by decide)) <|
  Chain.cons (stepAt_binary 1866 _ _ _ _ rfl (by decide) (by decide)) <|
  Chain.cons (stepAt_nullary 1867 _ _ rfl) <|
  Chain.cons (stepAt_unary 1868 _ _ _ rfl (by decide)) <|
  Chain.cons (stepAt_binary 1869 _ _ _ _ rfl (by decide) (by decide)) <|
  Chain.cons (stepAt_ternary 1870 _ _ _ _ _ rfl (by decide) (by decide) (by decide)) <|
  Chain.cons (stepAt_nullary 1871 _ _ rfl) <|
  Chain.cons (stepAt_unary 1872 _ _ _ rfl (by decide)) <|
  Chain.cons (stepAt_binary 1873 _ _ _ _ rfl (by decide) (by decide)) <|
  Chain.cons (stepAt_nullary 1874 _ _ rfl) <|
  Chain.cons (stepAt_unary 1875 _ _ _ rfl (by decide)) <|
  Chain.cons (stepAt_binary 1876 _ _ _ _ rfl (by decide) (by decide)) <|
  Chain.cons (stepAt_ternary 1877 _ _ _ _ _ rfl (by decide) (by decide) (by decide)) <|
  Chain.cons (stepAt_unary 1878 _ _ _ rfl (by decide)) <|
  Chain.cons (stepAt_unary 1879 _ _ _ rfl (by decide)) <|
  Chain.cons (stepAt_binary 1880 _ _ _ _ rfl (by decide) (by decide)) <|
  Chain.cons (stepAt_binary 1881 _ _ _ _ rfl (by decide) (by decide)) <|
  Chain.cons (stepAt_nullary 1882 _ _ rfl) <|
  Chain.cons (stepAt_unary 1883 _ _ _ rfl (by decide)) <|
  Chain.cons (stepAt_binary 1884 _ _ _ _ rfl (by decide) (by decide)) <|
  Chain.cons (stepAt_nullary 1885 _ _ rfl) <|
  Chain.cons (stepAt_unary 1886 _ _ _ rfl (by decide)) <|
  Chain.cons (stepAt_binary 1887 _ _ _ _ rfl (by decide) (by decide)) <|
  Chain.cons (stepAt_ternary 1888 _ _ _ _ _ rfl (by decide) (by decide) (by decide)) <|
  Chain.cons (stepAt_nullary 1889 _ _ rfl) <|
  Chain.cons (stepAt_unary 1890 _ _ _ rfl (by decide)) <|
  Chain.cons (stepAt_binary 1891 _ _ _ _ rfl (by decide) (by decide)) <|
  Chain.cons (stepAt_nullary 1892 _ _ rfl) <|
  Chain.cons (stepAt_unary 1893 _ _ _ rfl (by decide)) <|
  Chain.cons (stepAt_binary 1894 _ _ _ _ rfl (by decide) (by decide)) <|
  Chain.cons (stepAt_ternary 1895 _ _ _ _ _ rfl (by decide) (by decide) (by decide)) <|
  Chain.cons (stepAt_unary 1896 _ _ _ rfl (by decide)) <|
  Chain.cons (stepAt_unary 1897 _ _ _ rfl (by decide)) <|
  Chain.cons (stepAt_binary 1898 _ _ _ _ rfl (by decide) (by decide)) <|
  Chain.cons (stepAt_binary 1899 _ _ _ _ rfl (by decide) (by decide)) <|
  Chain.cons (stepAt_nullary 1900 _ _ rfl) <|
  Chain.cons (stepAt_unary 1901 _ _ _ rfl (by decide)) <|
  Chain.cons (stepAt_binary 1902 _ _ _ _ rfl (by decide) (by decide)) <|
  Chain.cons (stepAt_unary 1903 _ _ _ rfl (by decide)) <|
  Chain.cons (stepAt_unary 1904 _ _ _ rfl (by decide)) <|
  Chain.cons (stepAt_binary 1905 _ _ _ _ rfl (by decide) (by decide)) <|
  Chain.cons (stepAt_nullary 1906 _ _ rfl) <|
  Chain.cons (stepAt_unary 1907 _ _ _ rfl (by decide)) <|
  Chain.nil
theorem w27_length : (w27 : List (HloOp τ sig (Elt F))).length = 60 := rfl

/-- Window 28 of @main: 60 operations, writing buffers 1908 … 1967. -/
abbrev w28 : List (HloOp τ sig (Elt F)) :=
  [ StableHlo.binary main_v1275 main_v1203 main_v1276 (subf : (⟨S131072, .f32⟩ : BufTy).Contents (Elt F) → (⟨S131072, .f32⟩ : BufTy).Contents (Elt F) → (⟨S131072, .f32⟩ : BufTy).Contents (Elt F)),
    StableHlo.unary main_v1276 main_v1277 (broadcastInDim S1x131072 ![1] bcast_S131072_S1x131072_1 : (⟨S131072, .f32⟩ : BufTy).Contents (Elt F) → (⟨S1x131072, .f32⟩ : BufTy).Contents (Elt F)),
    StableHlo.unary main_v1277 main_v1278 (broadcastInDim S32x131072 ![0, 1] bcast_S1x131072_S32x131072_0_1 : (⟨S1x131072, .f32⟩ : BufTy).Contents (Elt F) → (⟨S32x131072, .f32⟩ : BufTy).Contents (Elt F)),
    StableHlo.binary main_v1274 main_v1278 main_v1279 (mulf : (⟨S32x131072, .f32⟩ : BufTy).Contents (Elt F) → (⟨S32x131072, .f32⟩ : BufTy).Contents (Elt F) → (⟨S32x131072, .f32⟩ : BufTy).Contents (Elt F)),
    StableHlo.unary main_v1202 main_v1280 (broadcastInDim S1x131072 ![1] bcast_S131072_S1x131072_1 : (⟨S131072, .f32⟩ : BufTy).Contents (Elt F) → (⟨S1x131072, .f32⟩ : BufTy).Contents (Elt F)),
    StableHlo.unary main_v1280 main_v1281 (broadcastInDim S32x131072 ![0, 1] bcast_S1x131072_S32x131072_0_1 : (⟨S1x131072, .f32⟩ : BufTy).Contents (Elt F) → (⟨S32x131072, .f32⟩ : BufTy).Contents (Elt F)),
    StableHlo.binary main_v1241 main_v1281 main_v1282 (mulf : (⟨S32x131072, .f32⟩ : BufTy).Contents (Elt F) → (⟨S32x131072, .f32⟩ : BufTy).Contents (Elt F) → (⟨S32x131072, .f32⟩ : BufTy).Contents (Elt F)),
    StableHlo.nullary main_cst_402 (constant S_ .f32 0x3F800000#32),
    StableHlo.unary main_cst_402 main_v1283 (broadcastInDim S131072 ![] bcast_S_S131072 : (⟨S_, .f32⟩ : BufTy).Contents (Elt F) → (⟨S131072, .f32⟩ : BufTy).Contents (Elt F)),
    StableHlo.binary main_v1283 main_v1203 main_v1284 (subf : (⟨S131072, .f32⟩ : BufTy).Contents (Elt F) → (⟨S131072, .f32⟩ : BufTy).Contents (Elt F) → (⟨S131072, .f32⟩ : BufTy).Contents (Elt F)),
    StableHlo.unary main_v1284 main_v1285 (broadcastInDim S1x131072 ![1] bcast_S131072_S1x131072_1 : (⟨S131072, .f32⟩ : BufTy).Contents (Elt F) → (⟨S1x131072, .f32⟩ : BufTy).Contents (Elt F)),
    StableHlo.unary main_v1285 main_v1286 (broadcastInDim S32x131072 ![0, 1] bcast_S1x131072_S32x131072_0_1 : (⟨S1x131072, .f32⟩ : BufTy).Contents (Elt F) → (⟨S32x131072, .f32⟩ : BufTy).Contents (Elt F)),
    StableHlo.binary main_v1282 main_v1286 main_v1287 (mulf : (⟨S32x131072, .f32⟩ : BufTy).Contents (Elt F) → (⟨S32x131072, .f32⟩ : BufTy).Contents (Elt F) → (⟨S32x131072, .f32⟩ : BufTy).Contents (Elt F)),
    StableHlo.binary main_v1279 main_v1287 main_v1288 (addf : (⟨S32x131072, .f32⟩ : BufTy).Contents (Elt F) → (⟨S32x131072, .f32⟩ : BufTy).Contents (Elt F) → (⟨S32x131072, .f32⟩ : BufTy).Contents (Elt F)),
    StableHlo.nullary main_cst_403 (constant S_ .f32 0x3F800000#32),
    StableHlo.unary main_cst_403 main_v1289 (broadcastInDim S131072 ![] bcast_S_S131072 : (⟨S_, .f32⟩ : BufTy).Contents (Elt F) → (⟨S131072, .f32⟩ : BufTy).Contents (Elt F)),
    StableHlo.binary main_v1289 main_v1202 main_v1290 (subf : (⟨S131072, .f32⟩ : BufTy).Contents (Elt F) → (⟨S131072, .f32⟩ : BufTy).Contents (Elt F) → (⟨S131072, .f32⟩ : BufTy).Contents (Elt F)),
    StableHlo.unary main_v1290 main_v1291 (broadcastInDim S1x131072 ![1] bcast_S131072_S1x131072_1 : (⟨S131072, .f32⟩ : BufTy).Contents (Elt F) → (⟨S1x131072, .f32⟩ : BufTy).Contents (Elt F)),
    StableHlo.unary main_v1291 main_v1292 (broadcastInDim S32x131072 ![0, 1] bcast_S1x131072_S32x131072_0_1 : (⟨S1x131072, .f32⟩ : BufTy).Contents (Elt F) → (⟨S32x131072, .f32⟩ : BufTy).Contents (Elt F)),
    StableHlo.binary main_v1255 main_v1292 main_v1293 (mulf : (⟨S32x131072, .f32⟩ : BufTy).Contents (Elt F) → (⟨S32x131072, .f32⟩ : BufTy).Contents (Elt F) → (⟨S32x131072, .f32⟩ : BufTy).Contents (Elt F)),
    StableHlo.unary main_v1203 main_v1294 (broadcastInDim S1x131072 ![1] bcast_S131072_S1x131072_1 : (⟨S131072, .f32⟩ : BufTy).Contents (Elt F) → (⟨S1x131072, .f32⟩ : BufTy).Contents (Elt F)),
    StableHlo.unary main_v1294 main_v1295 (broadcastInDim S32x131072 ![0, 1] bcast_S1x131072_S32x131072_0_1 : (⟨S1x131072, .f32⟩ : BufTy).Contents (Elt F) → (⟨S32x131072, .f32⟩ : BufTy).Contents (Elt F)),
    StableHlo.binary main_v1293 main_v1295 main_v1296 (mulf : (⟨S32x131072, .f32⟩ : BufTy).Contents (Elt F) → (⟨S32x131072, .f32⟩ : BufTy).Contents (Elt F) → (⟨S32x131072, .f32⟩ : BufTy).Contents (Elt F)),
    StableHlo.binary main_v1288 main_v1296 main_v1297 (addf : (⟨S32x131072, .f32⟩ : BufTy).Contents (Elt F) → (⟨S32x131072, .f32⟩ : BufTy).Contents (Elt F) → (⟨S32x131072, .f32⟩ : BufTy).Contents (Elt F)),
    StableHlo.unary main_v1202 main_v1298 (broadcastInDim S1x131072 ![1] bcast_S131072_S1x131072_1 : (⟨S131072, .f32⟩ : BufTy).Contents (Elt F) → (⟨S1x131072, .f32⟩ : BufTy).Contents (Elt F)),
    StableHlo.unary main_v1298 main_v1299 (broadcastInDim S32x131072 ![0, 1] bcast_S1x131072_S32x131072_0_1 : (⟨S1x131072, .f32⟩ : BufTy).Contents (Elt F) → (⟨S32x131072, .f32⟩ : BufTy).Contents (Elt F)),
    StableHlo.binary main_v1269 main_v1299 main_v1300 (mulf : (⟨S32x131072, .f32⟩ : BufTy).Contents (Elt F) → (⟨S32x131072, .f32⟩ : BufTy).Contents (Elt F) → (⟨S32x131072, .f32⟩ : BufTy).Contents (Elt F)),
    StableHlo.unary main_v1203 main_v1301 (broadcastInDim S1x131072 ![1] bcast_S131072_S1x131072_1 : (⟨S131072, .f32⟩ : BufTy).Contents (Elt F) → (⟨S1x131072, .f32⟩ : BufTy).Contents (Elt F)),
    StableHlo.unary main_v1301 main_v1302 (broadcastInDim S32x131072 ![0, 1] bcast_S1x131072_S32x131072_0_1 : (⟨S1x131072, .f32⟩ : BufTy).Contents (Elt F) → (⟨S32x131072, .f32⟩ : BufTy).Contents (Elt F)),
    StableHlo.binary main_v1300 main_v1302 main_v1303 (mulf : (⟨S32x131072, .f32⟩ : BufTy).Contents (Elt F) → (⟨S32x131072, .f32⟩ : BufTy).Contents (Elt F) → (⟨S32x131072, .f32⟩ : BufTy).Contents (Elt F)),
    StableHlo.binary main_v1297 main_v1303 main_v1304 (addf : (⟨S32x131072, .f32⟩ : BufTy).Contents (Elt F) → (⟨S32x131072, .f32⟩ : BufTy).Contents (Elt F) → (⟨S32x131072, .f32⟩ : BufTy).Contents (Elt F)),
    StableHlo.unary main_v1304 main_v1305 ((transpose S131072x32 [1, 0] · transposes_S32x131072_S131072x32_1_0) : (⟨S32x131072, .f32⟩ : BufTy).Contents (Elt F) → (⟨S131072x32, .f32⟩ : BufTy).Contents (Elt F)),
    StableHlo.binary main_v1176 main_v1305 main_v1306 (mulf : (⟨S131072x32, .f32⟩ : BufTy).Contents (Elt F) → (⟨S131072x32, .f32⟩ : BufTy).Contents (Elt F) → (⟨S131072x32, .f32⟩ : BufTy).Contents (Elt F)),
    StableHlo.nullary main_c_404 (constantI S_ 32 0#32),
    StableHlo.unary main_c_404 main_v1307 (broadcastInDim S2 ![] bcast_S_S2 : (⟨S_, .i32⟩ : BufTy).Contents (Elt F) → (⟨S2, .i32⟩ : BufTy).Contents (Elt F)),
    StableHlo.binary main_c_9 main_v1307 main_v1308 (cmpi .slt : (⟨S2, .i32⟩ : BufTy).Contents (Elt F) → (⟨S2, .i32⟩ : BufTy).Contents (Elt F) → (⟨S2, .i1⟩ : BufTy).Contents (Elt F)),
    StableHlo.nullary main_c_405 (constantI S_ 32 4#32),
    StableHlo.unary main_c_405 main_v1309 (broadcastInDim S2 ![] bcast_S_S2 : (⟨S_, .i32⟩ : BufTy).Contents (Elt F) → (⟨S2, .i32⟩ : BufTy).Contents (Elt F)),
    StableHlo.binary main_c_9 main_v1309 main_v1310 (addi : (⟨S2, .i32⟩ : BufTy).Contents (Elt F) → (⟨S2, .i32⟩ : BufTy).Contents (Elt F) → (⟨S2, .i32⟩ : BufTy).Contents (Elt F)),
    StableHlo.ternary main_v1308 main_v1310 main_c_9 main_v1311 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1311 main_v1312 (broadcastInDim S2x1 ![0] bcast_S2_S2x1_0 : (⟨S2, .i32⟩ : BufTy).Contents (Elt F) → (⟨S2x1, .i32⟩ : BufTy).Contents (Elt F)),
    StableHlo.binary main_v8 main_v1312 main_v1313 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1313 main_v1314 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1314 main_v1315 rfl shapeCasts_S131072x1_S131072,
    StableHlo.nullary main_cst_406 (constant S_ .f32 0x3F800000#32),
    StableHlo.unary main_cst_406 main_v1316 (broadcastInDim S131072 ![] bcast_S_S131072 : (⟨S_, .f32⟩ : BufTy).Contents (Elt F) → (⟨S131072, .f32⟩ : BufTy).Contents (Elt F)),
    StableHlo.binary main_v1315 main_v1316 main_v1317 (addf : (⟨S131072, .f32⟩ : BufTy).Contents (Elt F) → (⟨S131072, .f32⟩ : BufTy).Contents (Elt F) → (⟨S131072, .f32⟩ : BufTy).Contents (Elt F)),
    StableHlo.nullary main_cst_407 (constant S_ .f32 0x3F000000#32),
    StableHlo.unary main_cst_407 main_v1318 (broadcastInDim S131072 ![] bcast_S_S131072 : (⟨S_, .f32⟩ : BufTy).Contents (Elt F) → (⟨S131072, .f32⟩ : BufTy).Contents (Elt F)),
    StableHlo.binary main_v1317 main_v1318 main_v1319 (mulf : (⟨S131072, .f32⟩ : BufTy).Contents (Elt F) → (⟨S131072, .f32⟩ : BufTy).Contents (Elt F) → (⟨S131072, .f32⟩ : BufTy).Contents (Elt F)),
    StableHlo.nullary main_cst_408 (constant S_ .f32 0x42FE0000#32),
    StableHlo.unary main_cst_408 main_v1320 (broadcastInDim S131072 ![] bcast_S_S131072 : (⟨S_, .f32⟩ : BufTy).Contents (Elt F) → (⟨S131072, .f32⟩ : BufTy).Contents (Elt F)),
    StableHlo.binary main_v1319 main_v1320 main_v1321 (mulf : (⟨S131072, .f32⟩ : BufTy).Contents (Elt F) → (⟨S131072, .f32⟩ : BufTy).Contents (Elt F) → (⟨S131072, .f32⟩ : BufTy).Contents (Elt F)),
    StableHlo.unary main_v1313 main_v1322 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1322 main_v1323 rfl shapeCasts_S131072x1_S131072,
    StableHlo.nullary main_cst_409 (constant S_ .f32 0x3F800000#32),
    StableHlo.unary main_cst_409 main_v1324 (broadcastInDim S131072 ![] bcast_S_S131072 : (⟨S_, .f32⟩ : BufTy).Contents (Elt F) → (⟨S131072, .f32⟩ : BufTy).Contents (Elt F)),
    StableHlo.binary main_v1323 main_v1324 main_v1325 (addf : (⟨S131072, .f32⟩ : BufTy).Contents (Elt F) → (⟨S131072, .f32⟩ : BufTy).Contents (Elt F) → (⟨S131072, .f32⟩ : BufTy).Contents (Elt F)),
    StableHlo.nullary main_cst_410 (constant S_ .f32 0x3F000000#32),
    StableHlo.unary main_cst_410 main_v1326 (broadcastInDim S131072 ![] bcast_S_S131072 : (⟨S_, .f32⟩ : BufTy).Contents (Elt F) → (⟨S131072, .f32⟩ : BufTy).Contents (Elt F)) ]
theorem w28_eq (c : Dev nD) : main_part28 (F := F) c = seq w28 := rfl
theorem w28_sub : (w28 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub ..⟩
theorem w28_fresh : (w28 : List (HloOp τ sig (Elt F))).Forall fun op => op.fresh = ∅ := by
  simp only [List.Forall]; repeat' constructor
set_option maxHeartbeats 4000000 in
theorem w28_chain : Chain 1908 (w28 : List (HloOp τ sig (Elt F))) :=
  Chain.cons (stepAt_binary 1908 _ _ _ _ rfl (by decide) (by decide)) <|
  Chain.cons (stepAt_unary 1909 _ _ _ rfl (by decide)) <|
  Chain.cons (stepAt_unary 1910 _ _ _ rfl (by decide)) <|
  Chain.cons (stepAt_binary 1911 _ _ _ _ rfl (by decide) (by decide)) <|
  Chain.cons (stepAt_unary 1912 _ _ _ rfl (by decide)) <|
  Chain.cons (stepAt_unary 1913 _ _ _ rfl (by decide)) <|
  Chain.cons (stepAt_binary 1914 _ _ _ _ rfl (by decide) (by decide)) <|
  Chain.cons (stepAt_nullary 1915 _ _ rfl) <|
  Chain.cons (stepAt_unary 1916 _ _ _ rfl (by decide)) <|
  Chain.cons (stepAt_binary 1917 _ _ _ _ rfl (by decide) (by decide)) <|
  Chain.cons (stepAt_unary 1918 _ _ _ rfl (by decide)) <|
  Chain.cons (stepAt_unary 1919 _ _ _ rfl (by decide)) <|
  Chain.cons (stepAt_binary 1920 _ _ _ _ rfl (by decide) (by decide)) <|
  Chain.cons (stepAt_binary 1921 _ _ _ _ rfl (by decide) (by decide)) <|
  Chain.cons (stepAt_nullary 1922 _ _ rfl) <|
  Chain.cons (stepAt_unary 1923 _ _ _ rfl (by decide)) <|
  Chain.cons (stepAt_binary 1924 _ _ _ _ rfl (by decide) (by decide)) <|
  Chain.cons (stepAt_unary 1925 _ _ _ rfl (by decide)) <|
  Chain.cons (stepAt_unary 1926 _ _ _ rfl (by decide)) <|
  Chain.cons (stepAt_binary 1927 _ _ _ _ rfl (by decide) (by decide)) <|
  Chain.cons (stepAt_unary 1928 _ _ _ rfl (by decide)) <|
  Chain.cons (stepAt_unary 1929 _ _ _ rfl (by decide)) <|
  Chain.cons (stepAt_binary 1930 _ _ _ _ rfl (by decide) (by decide)) <|
  Chain.cons (stepAt_binary 1931 _ _ _ _ rfl (by decide) (by decide)) <|
  Chain.cons (stepAt_unary 1932 _ _ _ rfl (by decide)) <|
  Chain.cons (stepAt_unary 1933 _ _ _ rfl (by decide)) <|
  Chain.cons (stepAt_binary 1934 _ _ _ _ rfl (by decide) (by decide)) <|
  Chain.cons (stepAt_unary 1935 _ _ _ rfl (by decide)) <|
  Chain.cons (stepAt_unary 1936 _ _ _ rfl (by decide)) <|
  Chain.cons (stepAt_binary 1937 _ _ _ _ rfl (by decide) (by decide)) <|
  Chain.cons (stepAt_binary 1938 _ _ _ _ rfl (by decide) (by decide)) <|
  Chain.cons (stepAt_unary 1939 _ _ _ rfl (by decide)) <|
  Chain.cons (stepAt_binary 1940 _ _ _ _ rfl (by decide) (by decide)) <|
  Chain.cons (stepAt_nullary 1941 _ _ rfl) <|
  Chain.cons (stepAt_unary 1942 _ _ _ rfl (by decide)) <|
  Chain.cons (stepAt_binary 1943 _ _ _ _ rfl (by decide) (by decide)) <|
  Chain.cons (stepAt_nullary 1944 _ _ rfl) <|
  Chain.cons (stepAt_unary 1945 _ _ _ rfl (by decide)) <|
  Chain.cons (stepAt_binary 1946 _ _ _ _ rfl (by decide) (by decide)) <|
  Chain.cons (stepAt_ternary 1947 _ _ _ _ _ rfl (by decide) (by decide) (by decide)) <|
  Chain.cons (stepAt_unary 1948 _ _ _ rfl (by decide)) <|
  Chain.cons (stepAt_binary 1949 _ _ _ _ rfl (by decide) (by decide)) <|
  Chain.cons (stepAt_unary 1950 _ _ _ rfl (by decide)) <|
  Chain.cons (stepAt_reshape 1951 _ _ _ _ rfl (by decide)) <|
  Chain.cons (stepAt_nullary 1952 _ _ rfl) <|
  Chain.cons (stepAt_unary 1953 _ _ _ rfl (by decide)) <|
  Chain.cons (stepAt_binary 1954 _ _ _ _ rfl (by decide) (by decide)) <|
  Chain.cons (stepAt_nullary 1955 _ _ rfl) <|
  Chain.cons (stepAt_unary 1956 _ _ _ rfl (by decide)) <|
  Chain.cons (stepAt_binary 1957 _ _ _ _ rfl (by decide) (by decide)) <|
  Chain.cons (stepAt_nullary 1958 _ _ rfl) <|
  Chain.cons (stepAt_unary 1959 _ _ _ rfl (by decide)) <|
  Chain.cons (stepAt_binary 1960 _ _ _ _ rfl (by decide) (by decide)) <|
  Chain.cons (stepAt_unary 1961 _ _ _ rfl (by decide)) <|
  Chain.cons (stepAt_reshape 1962 _ _ _ _ rfl (by decide)) <|
  Chain.cons (stepAt_nullary 1963 _ _ rfl) <|
  Chain.cons (stepAt_unary 1964 _ _ _ rfl (by decide)) <|
  Chain.cons (stepAt_binary 1965 _ _ _ _ rfl (by decide) (by decide)) <|
  Chain.cons (stepAt_nullary 1966 _ _ rfl) <|
  Chain.cons (stepAt_unary 1967 _ _ _ rfl (by decide)) <|
  Chain.nil
theorem w28_length : (w28 : List (HloOp τ sig (Elt F))).length = 60 := rfl

/-- Window 29 of @main: 80 operations, writing buffers 1968 … 2047. -/
abbrev w29 : List (HloOp τ sig (Elt F)) :=
  [ StableHlo.binary main_v1325 main_v1326 main_v1327 (mulf : (⟨S131072, .f32⟩ : BufTy).Contents (Elt F) → (⟨S131072, .f32⟩ : BufTy).Contents (Elt F) → (⟨S131072, .f32⟩ : BufTy).Contents (Elt F)),
    StableHlo.nullary main_cst_411 (constant S_ .f32 0x43150000#32),
    StableHlo.unary main_cst_411 main_v1328 (broadcastInDim S131072 ![] bcast_S_S131072 : (⟨S_, .f32⟩ : BufTy).Contents (Elt F) → (⟨S131072, .f32⟩ : BufTy).Contents (Elt F)),
    StableHlo.binary main_v1327 main_v1328 main_v1329 (mulf : (⟨S131072, .f32⟩ : BufTy).Contents (Elt F) → (⟨S131072, .f32⟩ : BufTy).Contents (Elt F) → (⟨S131072, .f32⟩ : BufTy).Contents (Elt F)),
    StableHlo.unary main_v1321 main_v1330 (Host.floor : (⟨S131072, .f32⟩ : BufTy).Contents (Elt F) → (⟨S131072, .f32⟩ : BufTy).Contents (Elt F)),
    StableHlo.unary main_v1329 main_v1331 (Host.floor : (⟨S131072, .f32⟩ : BufTy).Contents (Elt F) → (⟨S131072, .f32⟩ : BufTy).Contents (Elt F)),
    StableHlo.binary main_v1321 main_v1330 main_v1332 (subf : (⟨S131072, .f32⟩ : BufTy).Contents (Elt F) → (⟨S131072, .f32⟩ : BufTy).Contents (Elt F) → (⟨S131072, .f32⟩ : BufTy).Contents (Elt F)),
    StableHlo.binary main_v1329 main_v1331 main_v1333 (subf : (⟨S131072, .f32⟩ : BufTy).Contents (Elt F) → (⟨S131072, .f32⟩ : BufTy).Contents (Elt F) → (⟨S131072, .f32⟩ : BufTy).Contents (Elt F)),
    StableHlo.unary main_v1330 main_v1334 (fptosi 32 : (⟨S131072, .f32⟩ : BufTy).Contents (Elt F) → (⟨S131072, .i32⟩ : BufTy).Contents (Elt F)),
    StableHlo.nullary main_c_412 (constantI S_ 32 0#32),
    StableHlo.nullary main_c_413 (constantI S_ 32 127#32),
    StableHlo.TRef.unary (.of main_c_412) main_call40.v0 id,
    StableHlo.TRef.unary main_call40.v0 main_call40.v1 (broadcastInDim S131072 ![] bcast_S_S131072),
    StableHlo.TRef.binary main_call40.v1 (.of main_v1334) main_call40.v2 maxsi,
    StableHlo.TRef.unary (.of main_c_413) main_call40.v3 id,
    StableHlo.TRef.unary main_call40.v3 main_call40.v4 (broadcastInDim S131072 ![] bcast_S_S131072),
    StableHlo.TRef.binary main_call40.v4 main_call40.v2 main_call40.v5 minsi,
    StableHlo.nullary main_c_414 (constantI S_ 32 1#32),
    StableHlo.unary main_c_414 main_v1336 (broadcastInDim S131072 ![] bcast_S_S131072 : (⟨S_, .i32⟩ : BufTy).Contents (Elt F) → (⟨S131072, .i32⟩ : BufTy).Contents (Elt F)),
    StableHlo.binary main_v1335 main_v1336 main_v1337 (addi : (⟨S131072, .i32⟩ : BufTy).Contents (Elt F) → (⟨S131072, .i32⟩ : BufTy).Contents (Elt F) → (⟨S131072, .i32⟩ : BufTy).Contents (Elt F)),
    StableHlo.nullary main_c_415 (constantI S_ 32 0#32),
    StableHlo.nullary main_c_416 (constantI S_ 32 127#32),
    StableHlo.TRef.unary (.of main_c_415) main_call41.v0 id,
    StableHlo.TRef.unary main_call41.v0 main_call41.v1 (broadcastInDim S131072 ![] bcast_S_S131072),
    StableHlo.TRef.binary main_call41.v1 (.of main_v1337) main_call41.v2 maxsi,
    StableHlo.TRef.unary (.of main_c_416) main_call41.v3 id,
    StableHlo.TRef.unary main_call41.v3 main_call41.v4 (broadcastInDim S131072 ![] bcast_S_S131072),
    StableHlo.TRef.binary main_call41.v4 main_call41.v2 main_call41.v5 minsi,
    StableHlo.unary main_v1331 main_v1339 (fptosi 32 : (⟨S131072, .f32⟩ : BufTy).Contents (Elt F) → (⟨S131072, .i32⟩ : BufTy).Contents (Elt F)),
    StableHlo.nullary main_c_417 (constantI S_ 32 0#32),
    StableHlo.nullary main_c_418 (constantI S_ 32 149#32),
    StableHlo.TRef.unary (.of main_c_417) main_call42.v0 id,
    StableHlo.TRef.unary main_call42.v0 main_call42.v1 (broadcastInDim S131072 ![] bcast_S_S131072),
    StableHlo.TRef.binary main_call42.v1 (.of main_v1339) main_call42.v2 maxsi,
    StableHlo.TRef.unary (.of main_c_418) main_call42.v3 id,
    StableHlo.TRef.unary main_call42.v3 main_call42.v4 (broadcastInDim S131072 ![] bcast_S_S131072),
    StableHlo.TRef.binary main_call42.v4 main_call42.v2 main_call42.v5 minsi,
    StableHlo.nullary main_c_419 (constantI S_ 32 1#32),
    StableHlo.unary main_c_419 main_v1341 (broadcastInDim S131072 ![] bcast_S_S131072 : (⟨S_, .i32⟩ : BufTy).Contents (Elt F) → (⟨S131072, .i32⟩ : BufTy).Contents (Elt F)),
    StableHlo.binary main_v1340 main_v1341 main_v1342 (addi : (⟨S131072, .i32⟩ : BufTy).Contents (Elt F) → (⟨S131072, .i32⟩ : BufTy).Contents (Elt F) → (⟨S131072, .i32⟩ : BufTy).Contents (Elt F)),
    StableHlo.nullary main_c_420 (constantI S_ 32 0#32),
    StableHlo.nullary main_c_421 (constantI S_ 32 149#32),
    StableHlo.TRef.unary (.of main_c_420) main_call43.v0 id,
    StableHlo.TRef.unary main_call43.v0 main_call43.v1 (broadcastInDim S131072 ![] bcast_S_S131072),
    StableHlo.TRef.binary main_call43.v1 (.of main_v1342) main_call43.v2 maxsi,
    StableHlo.TRef.unary (.of main_c_421) main_call43.v3 id,
    StableHlo.TRef.unary main_call43.v3 main_call43.v4 (broadcastInDim S131072 ![] bcast_S_S131072),
    StableHlo.TRef.binary main_call43.v4 main_call43.v2 main_call43.v5 minsi,
    StableHlo.nullary main_c_422 (constantI S_ 32 0#32),
    StableHlo.unary main_c_422 main_v1344 (broadcastInDim S131072 ![] bcast_S_S131072 : (⟨S_, .i32⟩ : BufTy).Contents (Elt F) → (⟨S131072, .i32⟩ : BufTy).Contents (Elt F)),
    StableHlo.binary main_v1340 main_v1344 main_v1345 (cmpi .slt : (⟨S131072, .i32⟩ : BufTy).Contents (Elt F) → (⟨S131072, .i32⟩ : BufTy).Contents (Elt F) → (⟨S131072, .i1⟩ : BufTy).Contents (Elt F)),
    StableHlo.nullary main_c_423 (constantI S_ 32 150#32),
    StableHlo.unary main_c_423 main_v1346 (broadcastInDim S131072 ![] bcast_S_S131072 : (⟨S_, .i32⟩ : BufTy).Contents (Elt F) → (⟨S131072, .i32⟩ : BufTy).Contents (Elt F)),
    StableHlo.binary main_v1340 main_v1346 main_v1347 (addi : (⟨S131072, .i32⟩ : BufTy).Contents (Elt F) → (⟨S131072, .i32⟩ : BufTy).Contents (Elt F) → (⟨S131072, .i32⟩ : BufTy).Contents (Elt F)),
    StableHlo.ternary main_v1345 main_v1347 main_v1340 main_v1348 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_424 (constantI S_ 32 0#32),
    StableHlo.unary main_c_424 main_v1349 (broadcastInDim S131072 ![] bcast_S_S131072 : (⟨S_, .i32⟩ : BufTy).Contents (Elt F) → (⟨S131072, .i32⟩ : BufTy).Contents (Elt F)),
    StableHlo.binary main_v1335 main_v1349 main_v1350 (cmpi .slt : (⟨S131072, .i32⟩ : BufTy).Contents (Elt F) → (⟨S131072, .i32⟩ : BufTy).Contents (Elt F) → (⟨S131072, .i1⟩ : BufTy).Contents (Elt F)),
    StableHlo.nullary main_c_425 (constantI S_ 32 128#32),
    StableHlo.unary main_c_425 main_v1351 (broadcastInDim S131072 ![] bcast_S_S131072 : (⟨S_, .i32⟩ : BufTy).Contents (Elt F) → (⟨S131072, .i32⟩ : BufTy).Contents (Elt F)),
    StableHlo.binary main_v1335 main_v1351 main_v1352 (addi : (⟨S131072, .i32⟩ : BufTy).Contents (Elt F) → (⟨S131072, .i32⟩ : BufTy).Contents (Elt F) → (⟨S131072, .i32⟩ : BufTy).Contents (Elt F)),
    StableHlo.ternary main_v1350 main_v1352 main_v1335 main_v1353 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1348 main_v1354 (broadcastInDim S131072x1 ![0] bcast_S131072_S131072x1_0 : (⟨S131072, .i32⟩ : BufTy).Contents (Elt F) → (⟨S131072x1, .i32⟩ : BufTy).Contents (Elt F)),
    StableHlo.unary main_v1353 main_v1355 (broadcastInDim S131072x1 ![0] bcast_S131072_S131072x1_0 : (⟨S131072, .i32⟩ : BufTy).Contents (Elt F) → (⟨S131072x1, .i32⟩ : BufTy).Contents (Elt F)),
    StableHlo.binary main_v1354 main_v1355 main_v1356 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg12 main_v1356 main_v1357 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_426 (constantI S_ 32 0#32),
    StableHlo.unary main_c_426 main_v1358 (broadcastInDim S131072 ![] bcast_S_S131072 : (⟨S_, .i32⟩ : BufTy).Contents (Elt F) → (⟨S131072, .i32⟩ : BufTy).Contents (Elt F)),
    StableHlo.binary main_v1340 main_v1358 main_v1359 (cmpi .slt : (⟨S131072, .i32⟩ : BufTy).Contents (Elt F) → (⟨S131072, .i32⟩ : BufTy).Contents (Elt F) → (⟨S131072, .i1⟩ : BufTy).Contents (Elt F)),
    StableHlo.nullary main_c_427 (constantI S_ 32 150#32),
    StableHlo.unary main_c_427 main_v1360 (broadcastInDim S131072 ![] bcast_S_S131072 : (⟨S_, .i32⟩ : BufTy).Contents (Elt F) → (⟨S131072, .i32⟩ : BufTy).Contents (Elt F)),
    StableHlo.binary main_v1340 main_v1360 main_v1361 (addi : (⟨S131072, .i32⟩ : BufTy).Contents (Elt F) → (⟨S131072, .i32⟩ : BufTy).Contents (Elt F) → (⟨S131072, .i32⟩ : BufTy).Contents (Elt F)),
    StableHlo.ternary main_v1359 main_v1361 main_v1340 main_v1362 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_428 (constantI S_ 32 0#32),
    StableHlo.unary main_c_428 main_v1363 (broadcastInDim S131072 ![] bcast_S_S131072 : (⟨S_, .i32⟩ : BufTy).Contents (Elt F) → (⟨S131072, .i32⟩ : BufTy).Contents (Elt F)),
    StableHlo.binary main_v1338 main_v1363 main_v1364 (cmpi .slt : (⟨S131072, .i32⟩ : BufTy).Contents (Elt F) → (⟨S131072, .i32⟩ : BufTy).Contents (Elt F) → (⟨S131072, .i1⟩ : BufTy).Contents (Elt F)),
    StableHlo.nullary main_c_429 (constantI S_ 32 128#32),
    StableHlo.unary main_c_429 main_v1365 (broadcastInDim S131072 ![] bcast_S_S131072 : (⟨S_, .i32⟩ : BufTy).Contents (Elt F) → (⟨S131072, .i32⟩ : BufTy).Contents (Elt F)),
    StableHlo.binary main_v1338 main_v1365 main_v1366 (addi : (⟨S131072, .i32⟩ : BufTy).Contents (Elt F) → (⟨S131072, .i32⟩ : BufTy).Contents (Elt F) → (⟨S131072, .i32⟩ : BufTy).Contents (Elt F)),
    StableHlo.ternary main_v1364 main_v1366 main_v1338 main_v1367 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) ]
theorem w29_eq (c : Dev nD) : main_part29 (F := F) c = seq w29 := rfl
theorem w29_sub : (w29 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem w29_fresh : (w29 : List (HloOp τ sig (Elt F))).Forall fun op => op.fresh = ∅ := by
  simp only [List.Forall]; repeat' constructor
set_option maxHeartbeats 4000000 in
theorem w29_chain : Chain 1968 (w29 : List (HloOp τ sig (Elt F))) :=
  Chain.cons (stepAt_binary 1968 _ _ _ _ rfl (by decide) (by decide)) <|
  Chain.cons (stepAt_nullary 1969 _ _ rfl) <|
  Chain.cons (stepAt_unary 1970 _ _ _ rfl (by decide)) <|
  Chain.cons (stepAt_binary 1971 _ _ _ _ rfl (by decide) (by decide)) <|
  Chain.cons (stepAt_unary 1972 _ _ _ rfl (by decide)) <|
  Chain.cons (stepAt_unary 1973 _ _ _ rfl (by decide)) <|
  Chain.cons (stepAt_binary 1974 _ _ _ _ rfl (by decide) (by decide)) <|
  Chain.cons (stepAt_binary 1975 _ _ _ _ rfl (by decide) (by decide)) <|
  Chain.cons (stepAt_unary 1976 _ _ _ rfl (by decide)) <|
  Chain.cons (stepAt_nullary 1977 _ _ rfl) <|
  Chain.cons (stepAt_nullary 1978 _ _ rfl) <|
  Chain.cons (stepAt_unary 1979 _ _ _ rfl (by decide)) <|
  Chain.cons (stepAt_unary 1980 _ _ _ rfl (by decide)) <|
  Chain.cons (stepAt_binary 1981 _ _ _ _ rfl (by decide) (by decide)) <|
  Chain.cons (stepAt_unary 1982 _ _ _ rfl (by decide)) <|
  Chain.cons (stepAt_unary 1983 _ _ _ rfl (by decide)) <|
  Chain.cons (stepAt_binary 1984 _ _ _ _ rfl (by decide) (by decide)) <|
  Chain.cons (stepAt_nullary 1985 _ _ rfl) <|
  Chain.cons (stepAt_unary 1986 _ _ _ rfl (by decide)) <|
  Chain.cons (stepAt_binary 1987 _ _ _ _ rfl (by decide) (by decide)) <|
  Chain.cons (stepAt_nullary 1988 _ _ rfl) <|
  Chain.cons (stepAt_nullary 1989 _ _ rfl) <|
  Chain.cons (stepAt_unary 1990 _ _ _ rfl (by decide)) <|
  Chain.cons (stepAt_unary 1991 _ _ _ rfl (by decide)) <|
  Chain.cons (stepAt_binary 1992 _ _ _ _ rfl (by decide) (by decide)) <|
  Chain.cons (stepAt_unary 1993 _ _ _ rfl (by decide)) <|
  Chain.cons (stepAt_unary 1994 _ _ _ rfl (by decide)) <|
  Chain.cons (stepAt_binary 1995 _ _ _ _ rfl (by decide) (by decide)) <|
  Chain.cons (stepAt_unary 1996 _ _ _ rfl (by decide)) <|
  Chain.cons (stepAt_nullary 1997 _ _ rfl) <|
  Chain.cons (stepAt_nullary 1998 _ _ rfl) <|
  Chain.cons (stepAt_unary 1999 _ _ _ rfl (by decide)) <|
  Chain.cons (stepAt_unary 2000 _ _ _ rfl (by decide)) <|
  Chain.cons (stepAt_binary 2001 _ _ _ _ rfl (by decide) (by decide)) <|
  Chain.cons (stepAt_unary 2002 _ _ _ rfl (by decide)) <|
  Chain.cons (stepAt_unary 2003 _ _ _ rfl (by decide)) <|
  Chain.cons (stepAt_binary 2004 _ _ _ _ rfl (by decide) (by decide)) <|
  Chain.cons (stepAt_nullary 2005 _ _ rfl) <|
  Chain.cons (stepAt_unary 2006 _ _ _ rfl (by decide)) <|
  Chain.cons (stepAt_binary 2007 _ _ _ _ rfl (by decide) (by decide)) <|
  Chain.cons (stepAt_nullary 2008 _ _ rfl) <|
  Chain.cons (stepAt_nullary 2009 _ _ rfl) <|
  Chain.cons (stepAt_unary 2010 _ _ _ rfl (by decide)) <|
  Chain.cons (stepAt_unary 2011 _ _ _ rfl (by decide)) <|
  Chain.cons (stepAt_binary 2012 _ _ _ _ rfl (by decide) (by decide)) <|
  Chain.cons (stepAt_unary 2013 _ _ _ rfl (by decide)) <|
  Chain.cons (stepAt_unary 2014 _ _ _ rfl (by decide)) <|
  Chain.cons (stepAt_binary 2015 _ _ _ _ rfl (by decide) (by decide)) <|
  Chain.cons (stepAt_nullary 2016 _ _ rfl) <|
  Chain.cons (stepAt_unary 2017 _ _ _ rfl (by decide)) <|
  Chain.cons (stepAt_binary 2018 _ _ _ _ rfl (by decide) (by decide)) <|
  Chain.cons (stepAt_nullary 2019 _ _ rfl) <|
  Chain.cons (stepAt_unary 2020 _ _ _ rfl (by decide)) <|
  Chain.cons (stepAt_binary 2021 _ _ _ _ rfl (by decide) (by decide)) <|
  Chain.cons (stepAt_ternary 2022 _ _ _ _ _ rfl (by decide) (by decide) (by decide)) <|
  Chain.cons (stepAt_nullary 2023 _ _ rfl) <|
  Chain.cons (stepAt_unary 2024 _ _ _ rfl (by decide)) <|
  Chain.cons (stepAt_binary 2025 _ _ _ _ rfl (by decide) (by decide)) <|
  Chain.cons (stepAt_nullary 2026 _ _ rfl) <|
  Chain.cons (stepAt_unary 2027 _ _ _ rfl (by decide)) <|
  Chain.cons (stepAt_binary 2028 _ _ _ _ rfl (by decide) (by decide)) <|
  Chain.cons (stepAt_ternary 2029 _ _ _ _ _ rfl (by decide) (by decide) (by decide)) <|
  Chain.cons (stepAt_unary 2030 _ _ _ rfl (by decide)) <|
  Chain.cons (stepAt_unary 2031 _ _ _ rfl (by decide)) <|
  Chain.cons (stepAt_binary 2032 _ _ _ _ rfl (by decide) (by decide)) <|
  Chain.cons (stepAt_binary 2033 _ _ _ _ rfl (by decide) (by decide)) <|
  Chain.cons (stepAt_nullary 2034 _ _ rfl) <|
  Chain.cons (stepAt_unary 2035 _ _ _ rfl (by decide)) <|
  Chain.cons (stepAt_binary 2036 _ _ _ _ rfl (by decide) (by decide)) <|
  Chain.cons (stepAt_nullary 2037 _ _ rfl) <|
  Chain.cons (stepAt_unary 2038 _ _ _ rfl (by decide)) <|
  Chain.cons (stepAt_binary 2039 _ _ _ _ rfl (by decide) (by decide)) <|
  Chain.cons (stepAt_ternary 2040 _ _ _ _ _ rfl (by decide) (by decide) (by decide)) <|
  Chain.cons (stepAt_nullary 2041 _ _ rfl) <|
  Chain.cons (stepAt_unary 2042 _ _ _ rfl (by decide)) <|
  Chain.cons (stepAt_binary 2043 _ _ _ _ rfl (by decide) (by decide)) <|
  Chain.cons (stepAt_nullary 2044 _ _ rfl) <|
  Chain.cons (stepAt_unary 2045 _ _ _ rfl (by decide)) <|
  Chain.cons (stepAt_binary 2046 _ _ _ _ rfl (by decide) (by decide)) <|
  Chain.cons (stepAt_ternary 2047 _ _ _ _ _ rfl (by decide) (by decide) (by decide)) <|
  Chain.nil
theorem w29_length : (w29 : List (HloOp τ sig (Elt F))).length = 80 := rfl

/-- Window 30 of @main: 60 operations, writing buffers 2048 … 2107. -/
abbrev w30 : List (HloOp τ sig (Elt F)) :=
  [ StableHlo.unary main_v1362 main_v1368 (broadcastInDim S131072x1 ![0] bcast_S131072_S131072x1_0 : (⟨S131072, .i32⟩ : BufTy).Contents (Elt F) → (⟨S131072x1, .i32⟩ : BufTy).Contents (Elt F)),
    StableHlo.unary main_v1367 main_v1369 (broadcastInDim S131072x1 ![0] bcast_S131072_S131072x1_0 : (⟨S131072, .i32⟩ : BufTy).Contents (Elt F) → (⟨S131072x1, .i32⟩ : BufTy).Contents (Elt F)),
    StableHlo.binary main_v1368 main_v1369 main_v1370 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg12 main_v1370 main_v1371 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_430 (constantI S_ 32 0#32),
    StableHlo.unary main_c_430 main_v1372 (broadcastInDim S131072 ![] bcast_S_S131072 : (⟨S_, .i32⟩ : BufTy).Contents (Elt F) → (⟨S131072, .i32⟩ : BufTy).Contents (Elt F)),
    StableHlo.binary main_v1343 main_v1372 main_v1373 (cmpi .slt : (⟨S131072, .i32⟩ : BufTy).Contents (Elt F) → (⟨S131072, .i32⟩ : BufTy).Contents (Elt F) → (⟨S131072, .i1⟩ : BufTy).Contents (Elt F)),
    StableHlo.nullary main_c_431 (constantI S_ 32 150#32),
    StableHlo.unary main_c_431 main_v1374 (broadcastInDim S131072 ![] bcast_S_S131072 : (⟨S_, .i32⟩ : BufTy).Contents (Elt F) → (⟨S131072, .i32⟩ : BufTy).Contents (Elt F)),
    StableHlo.binary main_v1343 main_v1374 main_v1375 (addi : (⟨S131072, .i32⟩ : BufTy).Contents (Elt F) → (⟨S131072, .i32⟩ : BufTy).Contents (Elt F) → (⟨S131072, .i32⟩ : BufTy).Contents (Elt F)),
    StableHlo.ternary main_v1373 main_v1375 main_v1343 main_v1376 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_432 (constantI S_ 32 0#32),
    StableHlo.unary main_c_432 main_v1377 (broadcastInDim S131072 ![] bcast_S_S131072 : (⟨S_, .i32⟩ : BufTy).Contents (Elt F) → (⟨S131072, .i32⟩ : BufTy).Contents (Elt F)),
    StableHlo.binary main_v1335 main_v1377 main_v1378 (cmpi .slt : (⟨S131072, .i32⟩ : BufTy).Contents (Elt F) → (⟨S131072, .i32⟩ : BufTy).Contents (Elt F) → (⟨S131072, .i1⟩ : BufTy).Contents (Elt F)),
    StableHlo.nullary main_c_433 (constantI S_ 32 128#32),
    StableHlo.unary main_c_433 main_v1379 (broadcastInDim S131072 ![] bcast_S_S131072 : (⟨S_, .i32⟩ : BufTy).Contents (Elt F) → (⟨S131072, .i32⟩ : BufTy).Contents (Elt F)),
    StableHlo.binary main_v1335 main_v1379 main_v1380 (addi : (⟨S131072, .i32⟩ : BufTy).Contents (Elt F) → (⟨S131072, .i32⟩ : BufTy).Contents (Elt F) → (⟨S131072, .i32⟩ : BufTy).Contents (Elt F)),
    StableHlo.ternary main_v1378 main_v1380 main_v1335 main_v1381 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1376 main_v1382 (broadcastInDim S131072x1 ![0] bcast_S131072_S131072x1_0 : (⟨S131072, .i32⟩ : BufTy).Contents (Elt F) → (⟨S131072x1, .i32⟩ : BufTy).Contents (Elt F)),
    StableHlo.unary main_v1381 main_v1383 (broadcastInDim S131072x1 ![0] bcast_S131072_S131072x1_0 : (⟨S131072, .i32⟩ : BufTy).Contents (Elt F) → (⟨S131072x1, .i32⟩ : BufTy).Contents (Elt F)),
    StableHlo.binary main_v1382 main_v1383 main_v1384 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg12 main_v1384 main_v1385 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_434 (constantI S_ 32 0#32),
    StableHlo.unary main_c_434 main_v1386 (broadcastInDim S131072 ![] bcast_S_S131072 : (⟨S_, .i32⟩ : BufTy).Contents (Elt F) → (⟨S131072, .i32⟩ : BufTy).Contents (Elt F)),
    StableHlo.binary main_v1343 main_v1386 main_v1387 (cmpi .slt : (⟨S131072, .i32⟩ : BufTy).Contents (Elt F) → (⟨S131072, .i32⟩ : BufTy).Contents (Elt F) → (⟨S131072, .i1⟩ : BufTy).Contents (Elt F)),
    StableHlo.nullary main_c_435 (constantI S_ 32 150#32),
    StableHlo.unary main_c_435 main_v1388 (broadcastInDim S131072 ![] bcast_S_S131072 : (⟨S_, .i32⟩ : BufTy).Contents (Elt F) → (⟨S131072, .i32⟩ : BufTy).Contents (Elt F)),
    StableHlo.binary main_v1343 main_v1388 main_v1389 (addi : (⟨S131072, .i32⟩ : BufTy).Contents (Elt F) → (⟨S131072, .i32⟩ : BufTy).Contents (Elt F) → (⟨S131072, .i32⟩ : BufTy).Contents (Elt F)),
    StableHlo.ternary main_v1387 main_v1389 main_v1343 main_v1390 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_436 (constantI S_ 32 0#32),
    StableHlo.unary main_c_436 main_v1391 (broadcastInDim S131072 ![] bcast_S_S131072 : (⟨S_, .i32⟩ : BufTy).Contents (Elt F) → (⟨S131072, .i32⟩ : BufTy).Contents (Elt F)),
    StableHlo.binary main_v1338 main_v1391 main_v1392 (cmpi .slt : (⟨S131072, .i32⟩ : BufTy).Contents (Elt F) → (⟨S131072, .i32⟩ : BufTy).Contents (Elt F) → (⟨S131072, .i1⟩ : BufTy).Contents (Elt F)),
    StableHlo.nullary main_c_437 (constantI S_ 32 128#32),
    StableHlo.unary main_c_437 main_v1393 (broadcastInDim S131072 ![] bcast_S_S131072 : (⟨S_, .i32⟩ : BufTy).Contents (Elt F) → (⟨S131072, .i32⟩ : BufTy).Contents (Elt F)),
    StableHlo.binary main_v1338 main_v1393 main_v1394 (addi : (⟨S131072, .i32⟩ : BufTy).Contents (Elt F) → (⟨S131072, .i32⟩ : BufTy).Contents (Elt F) → (⟨S131072, .i32⟩ : BufTy).Contents (Elt F)),
    StableHlo.ternary main_v1392 main_v1394 main_v1338 main_v1395 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1390 main_v1396 (broadcastInDim S131072x1 ![0] bcast_S131072_S131072x1_0 : (⟨S131072, .i32⟩ : BufTy).Contents (Elt F) → (⟨S131072x1, .i32⟩ : BufTy).Contents (Elt F)),
    StableHlo.unary main_v1395 main_v1397 (broadcastInDim S131072x1 ![0] bcast_S131072_S131072x1_0 : (⟨S131072, .i32⟩ : BufTy).Contents (Elt F) → (⟨S131072x1, .i32⟩ : BufTy).Contents (Elt F)),
    StableHlo.binary main_v1396 main_v1397 main_v1398 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg12 main_v1398 main_v1399 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_cst_438 (constant S_ .f32 0x3F800000#32),
    StableHlo.unary main_cst_438 main_v1400 (broadcastInDim S131072 ![] bcast_S_S131072 : (⟨S_, .f32⟩ : BufTy).Contents (Elt F) → (⟨S131072, .f32⟩ : BufTy).Contents (Elt F)),
    StableHlo.binary main_v1400 main_v1332 main_v1401 (subf : (⟨S131072, .f32⟩ : BufTy).Contents (Elt F) → (⟨S131072, .f32⟩ : BufTy).Contents (Elt F) → (⟨S131072, .f32⟩ : BufTy).Contents (Elt F)),
    StableHlo.unary main_v1401 main_v1402 (broadcastInDim S1x131072 ![1] bcast_S131072_S1x131072_1 : (⟨S131072, .f32⟩ : BufTy).Contents (Elt F) → (⟨S1x131072, .f32⟩ : BufTy).Contents (Elt F)),
    StableHlo.unary main_v1402 main_v1403 (broadcastInDim S32x131072 ![0, 1] bcast_S1x131072_S32x131072_0_1 : (⟨S1x131072, .f32⟩ : BufTy).Contents (Elt F) → (⟨S32x131072, .f32⟩ : BufTy).Contents (Elt F)),
    StableHlo.binary main_v1357 main_v1403 main_v1404 (mulf : (⟨S32x131072, .f32⟩ : BufTy).Contents (Elt F) → (⟨S32x131072, .f32⟩ : BufTy).Contents (Elt F) → (⟨S32x131072, .f32⟩ : BufTy).Contents (Elt F)),
    StableHlo.nullary main_cst_439 (constant S_ .f32 0x3F800000#32),
    StableHlo.unary main_cst_439 main_v1405 (broadcastInDim S131072 ![] bcast_S_S131072 : (⟨S_, .f32⟩ : BufTy).Contents (Elt F) → (⟨S131072, .f32⟩ : BufTy).Contents (Elt F)),
    StableHlo.binary main_v1405 main_v1333 main_v1406 (subf : (⟨S131072, .f32⟩ : BufTy).Contents (Elt F) → (⟨S131072, .f32⟩ : BufTy).Contents (Elt F) → (⟨S131072, .f32⟩ : BufTy).Contents (Elt F)),
    StableHlo.unary main_v1406 main_v1407 (broadcastInDim S1x131072 ![1] bcast_S131072_S1x131072_1 : (⟨S131072, .f32⟩ : BufTy).Contents (Elt F) → (⟨S1x131072, .f32⟩ : BufTy).Contents (Elt F)),
    StableHlo.unary main_v1407 main_v1408 (broadcastInDim S32x131072 ![0, 1] bcast_S1x131072_S32x131072_0_1 : (⟨S1x131072, .f32⟩ : BufTy).Contents (Elt F) → (⟨S32x131072, .f32⟩ : BufTy).Contents (Elt F)),
    StableHlo.binary main_v1404 main_v1408 main_v1409 (mulf : (⟨S32x131072, .f32⟩ : BufTy).Contents (Elt F) → (⟨S32x131072, .f32⟩ : BufTy).Contents (Elt F) → (⟨S32x131072, .f32⟩ : BufTy).Contents (Elt F)),
    StableHlo.unary main_v1332 main_v1410 (broadcastInDim S1x131072 ![1] bcast_S131072_S1x131072_1 : (⟨S131072, .f32⟩ : BufTy).Contents (Elt F) → (⟨S1x131072, .f32⟩ : BufTy).Contents (Elt F)),
    StableHlo.unary main_v1410 main_v1411 (broadcastInDim S32x131072 ![0, 1] bcast_S1x131072_S32x131072_0_1 : (⟨S1x131072, .f32⟩ : BufTy).Contents (Elt F) → (⟨S32x131072, .f32⟩ : BufTy).Contents (Elt F)),
    StableHlo.binary main_v1371 main_v1411 main_v1412 (mulf : (⟨S32x131072, .f32⟩ : BufTy).Contents (Elt F) → (⟨S32x131072, .f32⟩ : BufTy).Contents (Elt F) → (⟨S32x131072, .f32⟩ : BufTy).Contents (Elt F)),
    StableHlo.nullary main_cst_440 (constant S_ .f32 0x3F800000#32),
    StableHlo.unary main_cst_440 main_v1413 (broadcastInDim S131072 ![] bcast_S_S131072 : (⟨S_, .f32⟩ : BufTy).Contents (Elt F) → (⟨S131072, .f32⟩ : BufTy).Contents (Elt F)),
    StableHlo.binary main_v1413 main_v1333 main_v1414 (subf : (⟨S131072, .f32⟩ : BufTy).Contents (Elt F) → (⟨S131072, .f32⟩ : BufTy).Contents (Elt F) → (⟨S131072, .f32⟩ : BufTy).Contents (Elt F)),
    StableHlo.unary main_v1414 main_v1415 (broadcastInDim S1x131072 ![1] bcast_S131072_S1x131072_1 : (⟨S131072, .f32⟩ : BufTy).Contents (Elt F) → (⟨S1x131072, .f32⟩ : BufTy).Contents (Elt F)),
    StableHlo.unary main_v1415 main_v1416 (broadcastInDim S32x131072 ![0, 1] bcast_S1x131072_S32x131072_0_1 : (⟨S1x131072, .f32⟩ : BufTy).Contents (Elt F) → (⟨S32x131072, .f32⟩ : BufTy).Contents (Elt F)) ]
theorem w30_eq (c : Dev nD) : main_part30 (F := F) c = seq w30 := rfl
theorem w30_sub : (w30 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩
theorem w30_fresh : (w30 : List (HloOp τ sig (Elt F))).Forall fun op => op.fresh = ∅ := by
  simp only [List.Forall]; repeat' constructor
set_option maxHeartbeats 4000000 in
theorem w30_chain : Chain 2048 (w30 : List (HloOp τ sig (Elt F))) :=
  Chain.cons (stepAt_unary 2048 _ _ _ rfl (by decide)) <|
  Chain.cons (stepAt_unary 2049 _ _ _ rfl (by decide)) <|
  Chain.cons (stepAt_binary 2050 _ _ _ _ rfl (by decide) (by decide)) <|
  Chain.cons (stepAt_binary 2051 _ _ _ _ rfl (by decide) (by decide)) <|
  Chain.cons (stepAt_nullary 2052 _ _ rfl) <|
  Chain.cons (stepAt_unary 2053 _ _ _ rfl (by decide)) <|
  Chain.cons (stepAt_binary 2054 _ _ _ _ rfl (by decide) (by decide)) <|
  Chain.cons (stepAt_nullary 2055 _ _ rfl) <|
  Chain.cons (stepAt_unary 2056 _ _ _ rfl (by decide)) <|
  Chain.cons (stepAt_binary 2057 _ _ _ _ rfl (by decide) (by decide)) <|
  Chain.cons (stepAt_ternary 2058 _ _ _ _ _ rfl (by decide) (by decide) (by decide)) <|
  Chain.cons (stepAt_nullary 2059 _ _ rfl) <|
  Chain.cons (stepAt_unary 2060 _ _ _ rfl (by decide)) <|
  Chain.cons (stepAt_binary 2061 _ _ _ _ rfl (by decide) (by decide)) <|
  Chain.cons (stepAt_nullary 2062 _ _ rfl) <|
  Chain.cons (stepAt_unary 2063 _ _ _ rfl (by decide)) <|
  Chain.cons (stepAt_binary 2064 _ _ _ _ rfl (by decide) (by decide)) <|
  Chain.cons (stepAt_ternary 2065 _ _ _ _ _ rfl (by decide) (by decide) (by decide)) <|
  Chain.cons (stepAt_unary 2066 _ _ _ rfl (by decide)) <|
  Chain.cons (stepAt_unary 2067 _ _ _ rfl (by decide)) <|
  Chain.cons (stepAt_binary 2068 _ _ _ _ rfl (by decide) (by decide)) <|
  Chain.cons (stepAt_binary 2069 _ _ _ _ rfl (by decide) (by decide)) <|
  Chain.cons (stepAt_nullary 2070 _ _ rfl) <|
  Chain.cons (stepAt_unary 2071 _ _ _ rfl (by decide)) <|
  Chain.cons (stepAt_binary 2072 _ _ _ _ rfl (by decide) (by decide)) <|
  Chain.cons (stepAt_nullary 2073 _ _ rfl) <|
  Chain.cons (stepAt_unary 2074 _ _ _ rfl (by decide)) <|
  Chain.cons (stepAt_binary 2075 _ _ _ _ rfl (by decide) (by decide)) <|
  Chain.cons (stepAt_ternary 2076 _ _ _ _ _ rfl (by decide) (by decide) (by decide)) <|
  Chain.cons (stepAt_nullary 2077 _ _ rfl) <|
  Chain.cons (stepAt_unary 2078 _ _ _ rfl (by decide)) <|
  Chain.cons (stepAt_binary 2079 _ _ _ _ rfl (by decide) (by decide)) <|
  Chain.cons (stepAt_nullary 2080 _ _ rfl) <|
  Chain.cons (stepAt_unary 2081 _ _ _ rfl (by decide)) <|
  Chain.cons (stepAt_binary 2082 _ _ _ _ rfl (by decide) (by decide)) <|
  Chain.cons (stepAt_ternary 2083 _ _ _ _ _ rfl (by decide) (by decide) (by decide)) <|
  Chain.cons (stepAt_unary 2084 _ _ _ rfl (by decide)) <|
  Chain.cons (stepAt_unary 2085 _ _ _ rfl (by decide)) <|
  Chain.cons (stepAt_binary 2086 _ _ _ _ rfl (by decide) (by decide)) <|
  Chain.cons (stepAt_binary 2087 _ _ _ _ rfl (by decide) (by decide)) <|
  Chain.cons (stepAt_nullary 2088 _ _ rfl) <|
  Chain.cons (stepAt_unary 2089 _ _ _ rfl (by decide)) <|
  Chain.cons (stepAt_binary 2090 _ _ _ _ rfl (by decide) (by decide)) <|
  Chain.cons (stepAt_unary 2091 _ _ _ rfl (by decide)) <|
  Chain.cons (stepAt_unary 2092 _ _ _ rfl (by decide)) <|
  Chain.cons (stepAt_binary 2093 _ _ _ _ rfl (by decide) (by decide)) <|
  Chain.cons (stepAt_nullary 2094 _ _ rfl) <|
  Chain.cons (stepAt_unary 2095 _ _ _ rfl (by decide)) <|
  Chain.cons (stepAt_binary 2096 _ _ _ _ rfl (by decide) (by decide)) <|
  Chain.cons (stepAt_unary 2097 _ _ _ rfl (by decide)) <|
  Chain.cons (stepAt_unary 2098 _ _ _ rfl (by decide)) <|
  Chain.cons (stepAt_binary 2099 _ _ _ _ rfl (by decide) (by decide)) <|
  Chain.cons (stepAt_unary 2100 _ _ _ rfl (by decide)) <|
  Chain.cons (stepAt_unary 2101 _ _ _ rfl (by decide)) <|
  Chain.cons (stepAt_binary 2102 _ _ _ _ rfl (by decide) (by decide)) <|
  Chain.cons (stepAt_nullary 2103 _ _ rfl) <|
  Chain.cons (stepAt_unary 2104 _ _ _ rfl (by decide)) <|
  Chain.cons (stepAt_binary 2105 _ _ _ _ rfl (by decide) (by decide)) <|
  Chain.cons (stepAt_unary 2106 _ _ _ rfl (by decide)) <|
  Chain.cons (stepAt_unary 2107 _ _ _ rfl (by decide)) <|
  Chain.nil
theorem w30_length : (w30 : List (HloOp τ sig (Elt F))).length = 60 := rfl

/-- Window 31 of @main: 65 operations, writing buffers 2108 … 2172. -/
abbrev w31 : List (HloOp τ sig (Elt F)) :=
  [ StableHlo.binary main_v1412 main_v1416 main_v1417 (mulf : (⟨S32x131072, .f32⟩ : BufTy).Contents (Elt F) → (⟨S32x131072, .f32⟩ : BufTy).Contents (Elt F) → (⟨S32x131072, .f32⟩ : BufTy).Contents (Elt F)),
    StableHlo.binary main_v1409 main_v1417 main_v1418 (addf : (⟨S32x131072, .f32⟩ : BufTy).Contents (Elt F) → (⟨S32x131072, .f32⟩ : BufTy).Contents (Elt F) → (⟨S32x131072, .f32⟩ : BufTy).Contents (Elt F)),
    StableHlo.nullary main_cst_441 (constant S_ .f32 0x3F800000#32),
    StableHlo.unary main_cst_441 main_v1419 (broadcastInDim S131072 ![] bcast_S_S131072 : (⟨S_, .f32⟩ : BufTy).Contents (Elt F) → (⟨S131072, .f32⟩ : BufTy).Contents (Elt F)),
    StableHlo.binary main_v1419 main_v1332 main_v1420 (subf : (⟨S131072, .f32⟩ : BufTy).Contents (Elt F) → (⟨S131072, .f32⟩ : BufTy).Contents (Elt F) → (⟨S131072, .f32⟩ : BufTy).Contents (Elt F)),
    StableHlo.unary main_v1420 main_v1421 (broadcastInDim S1x131072 ![1] bcast_S131072_S1x131072_1 : (⟨S131072, .f32⟩ : BufTy).Contents (Elt F) → (⟨S1x131072, .f32⟩ : BufTy).Contents (Elt F)),
    StableHlo.unary main_v1421 main_v1422 (broadcastInDim S32x131072 ![0, 1] bcast_S1x131072_S32x131072_0_1 : (⟨S1x131072, .f32⟩ : BufTy).Contents (Elt F) → (⟨S32x131072, .f32⟩ : BufTy).Contents (Elt F)),
    StableHlo.binary main_v1385 main_v1422 main_v1423 (mulf : (⟨S32x131072, .f32⟩ : BufTy).Contents (Elt F) → (⟨S32x131072, .f32⟩ : BufTy).Contents (Elt F) → (⟨S32x131072, .f32⟩ : BufTy).Contents (Elt F)),
    StableHlo.unary main_v1333 main_v1424 (broadcastInDim S1x131072 ![1] bcast_S131072_S1x131072_1 : (⟨S131072, .f32⟩ : BufTy).Contents (Elt F) → (⟨S1x131072, .f32⟩ : BufTy).Contents (Elt F)),
    StableHlo.unary main_v1424 main_v1425 (broadcastInDim S32x131072 ![0, 1] bcast_S1x131072_S32x131072_0_1 : (⟨S1x131072, .f32⟩ : BufTy).Contents (Elt F) → (⟨S32x131072, .f32⟩ : BufTy).Contents (Elt F)),
    StableHlo.binary main_v1423 main_v1425 main_v1426 (mulf : (⟨S32x131072, .f32⟩ : BufTy).Contents (Elt F) → (⟨S32x131072, .f32⟩ : BufTy).Contents (Elt F) → (⟨S32x131072, .f32⟩ : BufTy).Contents (Elt F)),
    StableHlo.binary main_v1418 main_v1426 main_v1427 (addf : (⟨S32x131072, .f32⟩ : BufTy).Contents (Elt F) → (⟨S32x131072, .f32⟩ : BufTy).Contents (Elt F) → (⟨S32x131072, .f32⟩ : BufTy).Contents (Elt F)),
    StableHlo.unary main_v1332 main_v1428 (broadcastInDim S1x131072 ![1] bcast_S131072_S1x131072_1 : (⟨S131072, .f32⟩ : BufTy).Contents (Elt F) → (⟨S1x131072, .f32⟩ : BufTy).Contents (Elt F)),
    StableHlo.unary main_v1428 main_v1429 (broadcastInDim S32x131072 ![0, 1] bcast_S1x131072_S32x131072_0_1 : (⟨S1x131072, .f32⟩ : BufTy).Contents (Elt F) → (⟨S32x131072, .f32⟩ : BufTy).Contents (Elt F)),
    StableHlo.binary main_v1399 main_v1429 main_v1430 (mulf : (⟨S32x131072, .f32⟩ : BufTy).Contents (Elt F) → (⟨S32x131072, .f32⟩ : BufTy).Contents (Elt F) → (⟨S32x131072, .f32⟩ : BufTy).Contents (Elt F)),
    StableHlo.unary main_v1333 main_v1431 (broadcastInDim S1x131072 ![1] bcast_S131072_S1x131072_1 : (⟨S131072, .f32⟩ : BufTy).Contents (Elt F) → (⟨S1x131072, .f32⟩ : BufTy).Contents (Elt F)),
    StableHlo.unary main_v1431 main_v1432 (broadcastInDim S32x131072 ![0, 1] bcast_S1x131072_S32x131072_0_1 : (⟨S1x131072, .f32⟩ : BufTy).Contents (Elt F) → (⟨S32x131072, .f32⟩ : BufTy).Contents (Elt F)),
    StableHlo.binary main_v1430 main_v1432 main_v1433 (mulf : (⟨S32x131072, .f32⟩ : BufTy).Contents (Elt F) → (⟨S32x131072, .f32⟩ : BufTy).Contents (Elt F) → (⟨S32x131072, .f32⟩ : BufTy).Contents (Elt F)),
    StableHlo.binary main_v1427 main_v1433 main_v1434 (addf : (⟨S32x131072, .f32⟩ : BufTy).Contents (Elt F) → (⟨S32x131072, .f32⟩ : BufTy).Contents (Elt F) → (⟨S32x131072, .f32⟩ : BufTy).Contents (Elt F)),
    StableHlo.unary main_v1434 main_v1435 ((transpose S131072x32 [1, 0] · transposes_S32x131072_S131072x32_1_0) : (⟨S32x131072, .f32⟩ : BufTy).Contents (Elt F) → (⟨S131072x32, .f32⟩ : BufTy).Contents (Elt F)),
    StableHlo.binary main_v1306 main_v1435 main_v1436 (mulf : (⟨S131072x32, .f32⟩ : BufTy).Contents (Elt F) → (⟨S131072x32, .f32⟩ : BufTy).Contents (Elt F) → (⟨S131072x32, .f32⟩ : BufTy).Contents (Elt F)),
    StableHlo.nullary main_c_442 (constantI S_ 32 0#32),
    StableHlo.unary main_c_442 main_v1437 (broadcastInDim S2 ![] bcast_S_S2 : (⟨S_, .i32⟩ : BufTy).Contents (Elt F) → (⟨S2, .i32⟩ : BufTy).Contents (Elt F)),
    StableHlo.binary main_c_10 main_v1437 main_v1438 (cmpi .slt : (⟨S2, .i32⟩ : BufTy).Contents (Elt F) → (⟨S2, .i32⟩ : BufTy).Contents (Elt F) → (⟨S2, .i1⟩ : BufTy).Contents (Elt F)),
    StableHlo.nullary main_c_443 (constantI S_ 32 4#32),
    StableHlo.unary main_c_443 main_v1439 (broadcastInDim S2 ![] bcast_S_S2 : (⟨S_, .i32⟩ : BufTy).Contents (Elt F) → (⟨S2, .i32⟩ : BufTy).Contents (Elt F)),
    StableHlo.binary main_c_10 main_v1439 main_v1440 (addi : (⟨S2, .i32⟩ : BufTy).Contents (Elt F) → (⟨S2, .i32⟩ : BufTy).Contents (Elt F) → (⟨S2, .i32⟩ : BufTy).Contents (Elt F)),
    StableHlo.ternary main_v1438 main_v1440 main_c_10 main_v1441 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1441 main_v1442 (broadcastInDim S2x1 ![0] bcast_S2_S2x1_0 : (⟨S2, .i32⟩ : BufTy).Contents (Elt F) → (⟨S2x1, .i32⟩ : BufTy).Contents (Elt F)),
    StableHlo.binary main_v8 main_v1442 main_v1443 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1443 main_v1444 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1444 main_v1445 rfl shapeCasts_S131072x1_S131072,
    StableHlo.nullary main_cst_444 (constant S_ .f32 0x3F800000#32),
    StableHlo.unary main_cst_444 main_v1446 (broadcastInDim S131072 ![] bcast_S_S131072 : (⟨S_, .f32⟩ : BufTy).Contents (Elt F) → (⟨S131072, .f32⟩ : BufTy).Contents (Elt F)),
    StableHlo.binary main_v1445 main_v1446 main_v1447 (addf : (⟨S131072, .f32⟩ : BufTy).Contents (Elt F) → (⟨S131072, .f32⟩ : BufTy).Contents (Elt F) → (⟨S131072, .f32⟩ : BufTy).Contents (Elt F)),
    StableHlo.nullary main_cst_445 (constant S_ .f32 0x3F000000#32),
    StableHlo.unary main_cst_445 main_v1448 (broadcastInDim S131072 ![] bcast_S_S131072 : (⟨S_, .f32⟩ : BufTy).Contents (Elt F) → (⟨S131072, .f32⟩ : BufTy).Contents (Elt F)),
    StableHlo.binary main_v1447 main_v1448 main_v1449 (mulf : (⟨S131072, .f32⟩ : BufTy).Contents (Elt F) → (⟨S131072, .f32⟩ : BufTy).Contents (Elt F) → (⟨S131072, .f32⟩ : BufTy).Contents (Elt F)),
    StableHlo.nullary main_cst_446 (constant S_ .f32 0x42FE0000#32),
    StableHlo.unary main_cst_446 main_v1450 (broadcastInDim S131072 ![] bcast_S_S131072 : (⟨S_, .f32⟩ : BufTy).Contents (Elt F) → (⟨S131072, .f32⟩ : BufTy).Contents (Elt F)),
    StableHlo.binary main_v1449 main_v1450 main_v1451 (mulf : (⟨S131072, .f32⟩ : BufTy).Contents (Elt F) → (⟨S131072, .f32⟩ : BufTy).Contents (Elt F) → (⟨S131072, .f32⟩ : BufTy).Contents (Elt F)),
    StableHlo.unary main_v1443 main_v1452 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1452 main_v1453 rfl shapeCasts_S131072x1_S131072,
    StableHlo.nullary main_cst_447 (constant S_ .f32 0x3F800000#32),
    StableHlo.unary main_cst_447 main_v1454 (broadcastInDim S131072 ![] bcast_S_S131072 : (⟨S_, .f32⟩ : BufTy).Contents (Elt F) → (⟨S131072, .f32⟩ : BufTy).Contents (Elt F)),
    StableHlo.binary main_v1453 main_v1454 main_v1455 (addf : (⟨S131072, .f32⟩ : BufTy).Contents (Elt F) → (⟨S131072, .f32⟩ : BufTy).Contents (Elt F) → (⟨S131072, .f32⟩ : BufTy).Contents (Elt F)),
    StableHlo.nullary main_cst_448 (constant S_ .f32 0x3F000000#32),
    StableHlo.unary main_cst_448 main_v1456 (broadcastInDim S131072 ![] bcast_S_S131072 : (⟨S_, .f32⟩ : BufTy).Contents (Elt F) → (⟨S131072, .f32⟩ : BufTy).Contents (Elt F)),
    StableHlo.binary main_v1455 main_v1456 main_v1457 (mulf : (⟨S131072, .f32⟩ : BufTy).Contents (Elt F) → (⟨S131072, .f32⟩ : BufTy).Contents (Elt F) → (⟨S131072, .f32⟩ : BufTy).Contents (Elt F)),
    StableHlo.nullary main_cst_449 (constant S_ .f32 0x43150000#32),
    StableHlo.unary main_cst_449 main_v1458 (broadcastInDim S131072 ![] bcast_S_S131072 : (⟨S_, .f32⟩ : BufTy).Contents (Elt F) → (⟨S131072, .f32⟩ : BufTy).Contents (Elt F)),
    StableHlo.binary main_v1457 main_v1458 main_v1459 (mulf : (⟨S131072, .f32⟩ : BufTy).Contents (Elt F) → (⟨S131072, .f32⟩ : BufTy).Contents (Elt F) → (⟨S131072, .f32⟩ : BufTy).Contents (Elt F)),
    StableHlo.unary main_v1451 main_v1460 (Host.floor : (⟨S131072, .f32⟩ : BufTy).Contents (Elt F) → (⟨S131072, .f32⟩ : BufTy).Contents (Elt F)),
    StableHlo.unary main_v1459 main_v1461 (Host.floor : (⟨S131072, .f32⟩ : BufTy).Contents (Elt F) → (⟨S131072, .f32⟩ : BufTy).Contents (Elt F)),
    StableHlo.binary main_v1451 main_v1460 main_v1462 (subf : (⟨S131072, .f32⟩ : BufTy).Contents (Elt F) → (⟨S131072, .f32⟩ : BufTy).Contents (Elt F) → (⟨S131072, .f32⟩ : BufTy).Contents (Elt F)),
    StableHlo.binary main_v1459 main_v1461 main_v1463 (subf : (⟨S131072, .f32⟩ : BufTy).Contents (Elt F) → (⟨S131072, .f32⟩ : BufTy).Contents (Elt F) → (⟨S131072, .f32⟩ : BufTy).Contents (Elt F)),
    StableHlo.unary main_v1460 main_v1464 (fptosi 32 : (⟨S131072, .f32⟩ : BufTy).Contents (Elt F) → (⟨S131072, .i32⟩ : BufTy).Contents (Elt F)),
    StableHlo.nullary main_c_450 (constantI S_ 32 0#32),
    StableHlo.nullary main_c_451 (constantI S_ 32 127#32),
    StableHlo.TRef.unary (.of main_c_450) main_call44.v0 id,
    StableHlo.TRef.unary main_call44.v0 main_call44.v1 (broadcastInDim S131072 ![] bcast_S_S131072),
    StableHlo.TRef.binary main_call44.v1 (.of main_v1464) main_call44.v2 maxsi,
    StableHlo.TRef.unary (.of main_c_451) main_call44.v3 id,
    StableHlo.TRef.unary main_call44.v3 main_call44.v4 (broadcastInDim S131072 ![] bcast_S_S131072),
    StableHlo.TRef.binary main_call44.v4 main_call44.v2 main_call44.v5 minsi ]
theorem w31_eq (c : Dev nD) : main_part31 (F := F) c = seq w31 := rfl
theorem w31_sub : (w31 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩
theorem w31_fresh : (w31 : List (HloOp τ sig (Elt F))).Forall fun op => op.fresh = ∅ := by
  simp only [List.Forall]; repeat' constructor
set_option maxHeartbeats 4000000 in
theorem w31_chain : Chain 2108 (w31 : List (HloOp τ sig (Elt F))) :=
  Chain.cons (stepAt_binary 2108 _ _ _ _ rfl (by decide) (by decide)) <|
  Chain.cons (stepAt_binary 2109 _ _ _ _ rfl (by decide) (by decide)) <|
  Chain.cons (stepAt_nullary 2110 _ _ rfl) <|
  Chain.cons (stepAt_unary 2111 _ _ _ rfl (by decide)) <|
  Chain.cons (stepAt_binary 2112 _ _ _ _ rfl (by decide) (by decide)) <|
  Chain.cons (stepAt_unary 2113 _ _ _ rfl (by decide)) <|
  Chain.cons (stepAt_unary 2114 _ _ _ rfl (by decide)) <|
  Chain.cons (stepAt_binary 2115 _ _ _ _ rfl (by decide) (by decide)) <|
  Chain.cons (stepAt_unary 2116 _ _ _ rfl (by decide)) <|
  Chain.cons (stepAt_unary 2117 _ _ _ rfl (by decide)) <|
  Chain.cons (stepAt_binary 2118 _ _ _ _ rfl (by decide) (by decide)) <|
  Chain.cons (stepAt_binary 2119 _ _ _ _ rfl (by decide) (by decide)) <|
  Chain.cons (stepAt_unary 2120 _ _ _ rfl (by decide)) <|
  Chain.cons (stepAt_unary 2121 _ _ _ rfl (by decide)) <|
  Chain.cons (stepAt_binary 2122 _ _ _ _ rfl (by decide) (by decide)) <|
  Chain.cons (stepAt_unary 2123 _ _ _ rfl (by decide)) <|
  Chain.cons (stepAt_unary 2124 _ _ _ rfl (by decide)) <|
  Chain.cons (stepAt_binary 2125 _ _ _ _ rfl (by decide) (by decide)) <|
  Chain.cons (stepAt_binary 2126 _ _ _ _ rfl (by decide) (by decide)) <|
  Chain.cons (stepAt_unary 2127 _ _ _ rfl (by decide)) <|
  Chain.cons (stepAt_binary 2128 _ _ _ _ rfl (by decide) (by decide)) <|
  Chain.cons (stepAt_nullary 2129 _ _ rfl) <|
  Chain.cons (stepAt_unary 2130 _ _ _ rfl (by decide)) <|
  Chain.cons (stepAt_binary 2131 _ _ _ _ rfl (by decide) (by decide)) <|
  Chain.cons (stepAt_nullary 2132 _ _ rfl) <|
  Chain.cons (stepAt_unary 2133 _ _ _ rfl (by decide)) <|
  Chain.cons (stepAt_binary 2134 _ _ _ _ rfl (by decide) (by decide)) <|
  Chain.cons (stepAt_ternary 2135 _ _ _ _ _ rfl (by decide) (by decide) (by decide)) <|
  Chain.cons (stepAt_unary 2136 _ _ _ rfl (by decide)) <|
  Chain.cons (stepAt_binary 2137 _ _ _ _ rfl (by decide) (by decide)) <|
  Chain.cons (stepAt_unary 2138 _ _ _ rfl (by decide)) <|
  Chain.cons (stepAt_reshape 2139 _ _ _ _ rfl (by decide)) <|
  Chain.cons (stepAt_nullary 2140 _ _ rfl) <|
  Chain.cons (stepAt_unary 2141 _ _ _ rfl (by decide)) <|
  Chain.cons (stepAt_binary 2142 _ _ _ _ rfl (by decide) (by decide)) <|
  Chain.cons (stepAt_nullary 2143 _ _ rfl) <|
  Chain.cons (stepAt_unary 2144 _ _ _ rfl (by decide)) <|
  Chain.cons (stepAt_binary 2145 _ _ _ _ rfl (by decide) (by decide)) <|
  Chain.cons (stepAt_nullary 2146 _ _ rfl) <|
  Chain.cons (stepAt_unary 2147 _ _ _ rfl (by decide)) <|
  Chain.cons (stepAt_binary 2148 _ _ _ _ rfl (by decide) (by decide)) <|
  Chain.cons (stepAt_unary 2149 _ _ _ rfl (by decide)) <|
  Chain.cons (stepAt_reshape 2150 _ _ _ _ rfl (by decide)) <|
  Chain.cons (stepAt_nullary 2151 _ _ rfl) <|
  Chain.cons (stepAt_unary 2152 _ _ _ rfl (by decide)) <|
  Chain.cons (stepAt_binary 2153 _ _ _ _ rfl (by decide) (by decide)) <|
  Chain.cons (stepAt_nullary 2154 _ _ rfl) <|
  Chain.cons (stepAt_unary 2155 _ _ _ rfl (by decide)) <|
  Chain.cons (stepAt_binary 2156 _ _ _ _ rfl (by decide) (by decide)) <|
  Chain.cons (stepAt_nullary 2157 _ _ rfl) <|
  Chain.cons (stepAt_unary 2158 _ _ _ rfl (by decide)) <|
  Chain.cons (stepAt_binary 2159 _ _ _ _ rfl (by decide) (by decide)) <|
  Chain.cons (stepAt_unary 2160 _ _ _ rfl (by decide)) <|
  Chain.cons (stepAt_unary 2161 _ _ _ rfl (by decide)) <|
  Chain.cons (stepAt_binary 2162 _ _ _ _ rfl (by decide) (by decide)) <|
  Chain.cons (stepAt_binary 2163 _ _ _ _ rfl (by decide) (by decide)) <|
  Chain.cons (stepAt_unary 2164 _ _ _ rfl (by decide)) <|
  Chain.cons (stepAt_nullary 2165 _ _ rfl) <|
  Chain.cons (stepAt_nullary 2166 _ _ rfl) <|
  Chain.cons (stepAt_unary 2167 _ _ _ rfl (by decide)) <|
  Chain.cons (stepAt_unary 2168 _ _ _ rfl (by decide)) <|
  Chain.cons (stepAt_binary 2169 _ _ _ _ rfl (by decide) (by decide)) <|
  Chain.cons (stepAt_unary 2170 _ _ _ rfl (by decide)) <|
  Chain.cons (stepAt_unary 2171 _ _ _ rfl (by decide)) <|
  Chain.cons (stepAt_binary 2172 _ _ _ _ rfl (by decide) (by decide)) <|
  Chain.nil
theorem w31_length : (w31 : List (HloOp τ sig (Elt F))).length = 65 := rfl

end Cert.ReferenceIdeal.Ops

end
-- ==== Proof.SimB8.lean ====
/- Operations 1531 … 1717 of the one program and 1537 … 1723 of the other apply the same functions to corresponding
   buffers. If both programs' final contents satisfy their own lines' equations and agree on the buffers these operations
   read from outside, they agree on what these operations write: one congruence per operation, in program order. -/
import proofs.«133805_j10187662426200_2_alg».proof.Proof.KIStretch1
import proofs.«133805_j10187662426200_2_alg».proof.Proof.RefOps2
import proofs.«133805_j10187662426200_2_alg».proof.Proof.RefOps3
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B8 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_64 : List (HloOp Cert.KernelIdeal.τ Cert.KernelIdeal.sig (Elt F))).Forall fun op => ∀ b ∈ op.writes, Φ₁ b = op.result Φ₁ b)
    (fa1 : (Cert.KernelIdeal.Gen.hostOps0_65 : List (HloOp Cert.KernelIdeal.τ Cert.KernelIdeal.sig (Elt F))).Forall fun op => ∀ b ∈ op.writes, Φ₁ b = op.result Φ₁ b)
    (fa2 : (Cert.KernelIdeal.Gen.hostOps0_66 : List (HloOp Cert.KernelIdeal.τ Cert.KernelIdeal.sig (Elt F))).Forall fun op => ∀ b ∈ op.writes, Φ₁ b = op.result Φ₁ b)
    (fa3 : (Cert.KernelIdeal.Gen.hostOps0_67 : List (HloOp Cert.KernelIdeal.τ Cert.KernelIdeal.sig (Elt F))).Forall fun op => ∀ b ∈ op.writes, Φ₁ b = op.result Φ₁ b)
    (fa4 : (Cert.KernelIdeal.Gen.hostOps0_68 : List (HloOp Cert.KernelIdeal.τ Cert.KernelIdeal.sig (Elt F))).Forall fun op => ∀ b ∈ op.writes, Φ₁ b = op.result Φ₁ b)
    (fa5 : (Cert.KernelIdeal.Gen.hostOps0_69 : List (HloOp Cert.KernelIdeal.τ Cert.KernelIdeal.sig (Elt F))).Forall fun op => ∀ b ∈ op.writes, Φ₁ b = op.result Φ₁ b)
    (fa6 : (Cert.KernelIdeal.Gen.hostOps0_70 : List (HloOp Cert.KernelIdeal.τ Cert.KernelIdeal.sig (Elt F))).Forall fun op => ∀ b ∈ op.writes, Φ₁ b = op.result Φ₁ b)
    (fa7 : (Cert.KernelIdeal.Gen.hostOps0_71 : List (HloOp Cert.KernelIdeal.τ Cert.KernelIdeal.sig (Elt F))).Forall fun op => ∀ b ∈ op.writes, Φ₁ b = op.result Φ₁ b)
    (fa8 : (Cert.KernelIdeal.Gen.hostOps0_72 : List (HloOp Cert.KernelIdeal.τ Cert.KernelIdeal.sig (Elt F))).Forall fun op => ∀ b ∈ op.writes, Φ₁ b = op.result Φ₁ b)
    (fb0 : (Cert.ReferenceIdeal.Ops.w22 : List (HloOp Cert.ReferenceIdeal.τ Cert.ReferenceIdeal.sig (Elt F))).Forall fun op => ∀ b ∈ op.writes, Φ₂ b = op.result Φ₂ b)
    (fb1 : (Cert.ReferenceIdeal.Ops.w23 : List (HloOp Cert.ReferenceIdeal.τ Cert.ReferenceIdeal.sig (Elt F))).Forall fun op => ∀ b ∈ op.writes, Φ₂ b = op.result Φ₂ b)
    (fb2 : (Cert.ReferenceIdeal.Ops.w24 : List (HloOp Cert.ReferenceIdeal.τ Cert.ReferenceIdeal.sig (Elt F))).Forall fun op => ∀ b ∈ op.writes, Φ₂ b = op.result Φ₂ b)
    (fb3 : (Cert.ReferenceIdeal.Ops.w25 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_7)) (Φ₂ (Proc.devRef .tc Cert.ReferenceIdeal.main_c_7)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x128, .f32⟩ : BufTy).Contents (Elt F)) (Φ₁ (Proc.devRef .tc Cert.KernelIdeal.main_arg10)) (Φ₂ (Proc.devRef .tc Cert.ReferenceIdeal.main_arg10)))
    : @Eq ((⟨Cert.KernelIdeal.S131072x32, .f32⟩ : BufTy).Contents (Elt F)) (Φ₁ (Proc.devRef .tc Cert.KernelIdeal.main_v1169)) (Φ₂ (Proc.devRef .tc Cert.ReferenceIdeal.main_v1175)) := by
  have e0 : @Eq ((⟨Cert.KernelIdeal.S_, .i32⟩ : BufTy).Contents (Elt F)) (Φ₁ (Proc.devRef .tc Cert.KernelIdeal.main_c_328)) (Φ₂ (Proc.devRef .tc Cert.ReferenceIdeal.main_c_328)) := step0 (β := ((⟨Cert.KernelIdeal.S_, .i32⟩ : BufTy).Contents (Elt F))) (eq0 (at_ fa0 (i := 112) rfl) :) (eq0 (at_ fb0 (i := 57) rfl) :)
  have e1 : @Eq ((⟨Cert.KernelIdeal.S2, .i32⟩ : BufTy).Contents (Elt F)) (Φ₁ (Proc.devRef .tc Cert.KernelIdeal.main_v1041)) (Φ₂ (Proc.devRef .tc Cert.ReferenceIdeal.main_v1047)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 58) rfl) :) e0
  have e2 : @Eq ((⟨Cert.KernelIdeal.S2, .i1⟩ : BufTy).Contents (Elt F)) (Φ₁ (Proc.devRef .tc Cert.KernelIdeal.main_v1042)) (Φ₂ (Proc.devRef .tc Cert.ReferenceIdeal.main_v1048)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 59) rfl) :) x0 e1
  have e3 : @Eq ((⟨Cert.KernelIdeal.S_, .i32⟩ : BufTy).Contents (Elt F)) (Φ₁ (Proc.devRef .tc Cert.KernelIdeal.main_c_329)) (Φ₂ (Proc.devRef .tc Cert.ReferenceIdeal.main_c_329)) := step0 (β := ((⟨Cert.KernelIdeal.S_, .i32⟩ : BufTy).Contents (Elt F))) (eq0 (at_ fa0 (i := 115) rfl) :) (eq0 (at_ fb1 (i := 0) rfl) :)
  have e4 : @Eq ((⟨Cert.KernelIdeal.S2, .i32⟩ : BufTy).Contents (Elt F)) (Φ₁ (Proc.devRef .tc Cert.KernelIdeal.main_v1043)) (Φ₂ (Proc.devRef .tc Cert.ReferenceIdeal.main_v1049)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb1 (i := 1) rfl) :) e3
  have e5 : @Eq ((⟨Cert.KernelIdeal.S2, .i32⟩ : BufTy).Contents (Elt F)) (Φ₁ (Proc.devRef .tc Cert.KernelIdeal.main_v1044)) (Φ₂ (Proc.devRef .tc Cert.ReferenceIdeal.main_v1050)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb1 (i := 2) rfl) :) x0 e4
  have e6 : @Eq ((⟨Cert.KernelIdeal.S2, .i32⟩ : BufTy).Contents (Elt F)) (Φ₁ (Proc.devRef .tc Cert.KernelIdeal.main_v1045)) (Φ₂ (Proc.devRef .tc Cert.ReferenceIdeal.main_v1051)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb1 (i := 3) rfl) :) e2 e5 x0
  have e7 : @Eq ((⟨Cert.KernelIdeal.S2x1, .i32⟩ : BufTy).Contents (Elt F)) (Φ₁ (Proc.devRef .tc Cert.KernelIdeal.main_v1046)) (Φ₂ (Proc.devRef .tc Cert.ReferenceIdeal.main_v1052)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb1 (i := 4) rfl) :) e6
  have e8 : @Eq ((⟨Cert.KernelIdeal.S131072x2, .f32⟩ : BufTy).Contents (Elt F)) (Φ₁ (Proc.devRef .tc Cert.KernelIdeal.main_v1047)) (Φ₂ (Proc.devRef .tc Cert.ReferenceIdeal.main_v1053)) := by rw [eq2 (at_ fa0 (i := 120) rfl), eq2 (at_ fb1 (i := 5) rfl), x1, e7] <;> rfl
  have e9 : @Eq ((⟨Cert.KernelIdeal.S131072x1, .f32⟩ : BufTy).Contents (Elt F)) (Φ₁ (Proc.devRef .tc Cert.KernelIdeal.main_v1048)) (Φ₂ (Proc.devRef .tc Cert.ReferenceIdeal.main_v1054)) := by rw [eq1 (at_ fa0 (i := 121) rfl), eq1 (at_ fb1 (i := 6) rfl), e8] <;> rfl
  have e10 : @Eq ((⟨Cert.KernelIdeal.S131072, .f32⟩ : BufTy).Contents (Elt F)) (Φ₁ (Proc.devRef .tc Cert.KernelIdeal.main_v1049)) (Φ₂ (Proc.devRef .tc Cert.ReferenceIdeal.main_v1055)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb1 (i := 7) rfl) :) e9
  have e11 : @Eq ((⟨Cert.KernelIdeal.S_, .f32⟩ : BufTy).Contents (Elt F)) (Φ₁ (Proc.devRef .tc Cert.KernelIdeal.main_cst_330)) (Φ₂ (Proc.devRef .tc Cert.ReferenceIdeal.main_cst_330)) := step0 (β := ((⟨Cert.KernelIdeal.S_, .f32⟩ : BufTy).Contents (Elt F))) (eq0 (at_ fa0 (i := 123) rfl) :) (eq0 (at_ fb1 (i := 8) rfl) :)
  have e12 : @Eq ((⟨Cert.KernelIdeal.S131072, .f32⟩ : BufTy).Contents (Elt F)) (Φ₁ (Proc.devRef .tc Cert.KernelIdeal.main_v1050)) (Φ₂ (Proc.devRef .tc Cert.ReferenceIdeal.main_v1056)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb1 (i := 9) rfl) :) e11
  have e13 : @Eq ((⟨Cert.KernelIdeal.S131072, .f32⟩ : BufTy).Contents (Elt F)) (Φ₁ (Proc.devRef .tc Cert.KernelIdeal.main_v1051)) (Φ₂ (Proc.devRef .tc Cert.ReferenceIdeal.main_v1057)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb1 (i := 10) rfl) :) e10 e12
  have e14 : @Eq ((⟨Cert.KernelIdeal.S_, .f32⟩ : BufTy).Contents (Elt F)) (Φ₁ (Proc.devRef .tc Cert.KernelIdeal.main_cst_331)) (Φ₂ (Proc.devRef .tc Cert.ReferenceIdeal.main_cst_331)) := step0 (β := ((⟨Cert.KernelIdeal.S_, .f32⟩ : BufTy).Contents (Elt F))) (eq0 (at_ fa0 (i := 126) rfl) :) (eq0 (at_ fb1 (i := 11) rfl) :)
  have e15 : @Eq ((⟨Cert.KernelIdeal.S131072, .f32⟩ : BufTy).Contents (Elt F)) (Φ₁ (Proc.devRef .tc Cert.KernelIdeal.main_v1052)) (Φ₂ (Proc.devRef .tc Cert.ReferenceIdeal.main_v1058)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 12) rfl) :) e14
  have e16 : @Eq ((⟨Cert.KernelIdeal.S131072, .f32⟩ : BufTy).Contents (Elt F)) (Φ₁ (Proc.devRef .tc Cert.KernelIdeal.main_v1053)) (Φ₂ (Proc.devRef .tc Cert.ReferenceIdeal.main_v1059)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 13) rfl) :) e13 e15
  have e17 : @Eq ((⟨Cert.KernelIdeal.S_, .f32⟩ : BufTy).Contents (Elt F)) (Φ₁ (Proc.devRef .tc Cert.KernelIdeal.main_cst_332)) (Φ₂ (Proc.devRef .tc Cert.ReferenceIdeal.main_cst_332)) := step0 (β := ((⟨Cert.KernelIdeal.S_, .f32⟩ : BufTy).Contents (Elt F))) (eq0 (at_ fa0 (i := 129) rfl) :) (eq0 (at_ fb1 (i := 14) rfl) :)
  have e18 : @Eq ((⟨Cert.KernelIdeal.S131072, .f32⟩ : BufTy).Contents (Elt F)) (Φ₁ (Proc.devRef .tc Cert.KernelIdeal.main_v1054)) (Φ₂ (Proc.devRef .tc Cert.ReferenceIdeal.main_v1060)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 15) rfl) :) e17
  have e19 : @Eq ((⟨Cert.KernelIdeal.S131072, .f32⟩ : BufTy).Contents (Elt F)) (Φ₁ (Proc.devRef .tc Cert.KernelIdeal.main_v1055)) (Φ₂ (Proc.devRef .tc Cert.ReferenceIdeal.main_v1061)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 16) rfl) :) e16 e18
  have e20 : @Eq ((⟨Cert.KernelIdeal.S131072x1, .f32⟩ : BufTy).Contents (Elt F)) (Φ₁ (Proc.devRef .tc Cert.KernelIdeal.main_v1056)) (Φ₂ (Proc.devRef .tc Cert.ReferenceIdeal.main_v1062)) := by rw [eq1 (at_ fa0 (i := 132) rfl), eq1 (at_ fb1 (i := 17) rfl), e8] <;> rfl
  have e21 : @Eq ((⟨Cert.KernelIdeal.S131072, .f32⟩ : BufTy).Contents (Elt F)) (Φ₁ (Proc.devRef .tc Cert.KernelIdeal.main_v1057)) (Φ₂ (Proc.devRef .tc Cert.ReferenceIdeal.main_v1063)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 18) rfl) :) e20
  have e22 : @Eq ((⟨Cert.KernelIdeal.S_, .f32⟩ : BufTy).Contents (Elt F)) (Φ₁ (Proc.devRef .tc Cert.KernelIdeal.main_cst_333)) (Φ₂ (Proc.devRef .tc Cert.ReferenceIdeal.main_cst_333)) := step0 (β := ((⟨Cert.KernelIdeal.S_, .f32⟩ : BufTy).Contents (Elt F))) (eq0 (at_ fa0 (i := 134) rfl) :) (eq0 (at_ fb1 (i := 19) rfl) :)
  have e23 : @Eq ((⟨Cert.KernelIdeal.S131072, .f32⟩ : BufTy).Contents (Elt F)) (Φ₁ (Proc.devRef .tc Cert.KernelIdeal.main_v1058)) (Φ₂ (Proc.devRef .tc Cert.ReferenceIdeal.main_v1064)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 20) rfl) :) e22
  have e24 : @Eq ((⟨Cert.KernelIdeal.S131072, .f32⟩ : BufTy).Contents (Elt F)) (Φ₁ (Proc.devRef .tc Cert.KernelIdeal.main_v1059)) (Φ₂ (Proc.devRef .tc Cert.ReferenceIdeal.main_v1065)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 21) rfl) :) e21 e23
  have e25 : @Eq ((⟨Cert.KernelIdeal.S_, .f32⟩ : BufTy).Contents (Elt F)) (Φ₁ (Proc.devRef .tc Cert.KernelIdeal.main_cst_334)) (Φ₂ (Proc.devRef .tc Cert.ReferenceIdeal.main_cst_334)) := step0 (β := ((⟨Cert.KernelIdeal.S_, .f32⟩ : BufTy).Contents (Elt F))) (eq0 (at_ fa0 (i := 137) rfl) :) (eq0 (at_ fb1 (i := 22) rfl) :)
  have e26 : @Eq ((⟨Cert.KernelIdeal.S131072, .f32⟩ : BufTy).Contents (Elt F)) (Φ₁ (Proc.devRef .tc Cert.KernelIdeal.main_v1060)) (Φ₂ (Proc.devRef .tc Cert.ReferenceIdeal.main_v1066)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 23) rfl) :) e25
  have e27 : @Eq ((⟨Cert.KernelIdeal.S131072, .f32⟩ : BufTy).Contents (Elt F)) (Φ₁ (Proc.devRef .tc Cert.KernelIdeal.main_v1061)) (Φ₂ (Proc.devRef .tc Cert.ReferenceIdeal.main_v1067)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 24) rfl) :) e24 e26
  have e28 : @Eq ((⟨Cert.KernelIdeal.S_, .f32⟩ : BufTy).Contents (Elt F)) (Φ₁ (Proc.devRef .tc Cert.KernelIdeal.main_cst_335)) (Φ₂ (Proc.devRef .tc Cert.ReferenceIdeal.main_cst_335)) := step0 (β := ((⟨Cert.KernelIdeal.S_, .f32⟩ : BufTy).Contents (Elt F))) (eq0 (at_ fa0 (i := 140) rfl) :) (eq0 (at_ fb1 (i := 25) rfl) :)
  have e29 : @Eq ((⟨Cert.KernelIdeal.S131072, .f32⟩ : BufTy).Contents (Elt F)) (Φ₁ (Proc.devRef .tc Cert.KernelIdeal.main_v1062)) (Φ₂ (Proc.devRef .tc Cert.ReferenceIdeal.main_v1068)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 26) rfl) :) e28
  have e30 : @Eq ((⟨Cert.KernelIdeal.S131072, .f32⟩ : BufTy).Contents (Elt F)) (Φ₁ (Proc.devRef .tc Cert.KernelIdeal.main_v1063)) (Φ₂ (Proc.devRef .tc Cert.ReferenceIdeal.main_v1069)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 27) rfl) :) e27 e29
  have e31 : @Eq ((⟨Cert.KernelIdeal.S131072, .f32⟩ : BufTy).Contents (Elt F)) (Φ₁ (Proc.devRef .tc Cert.KernelIdeal.main_v1064)) (Φ₂ (Proc.devRef .tc Cert.ReferenceIdeal.main_v1070)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 28) rfl) :) e19
  have e32 : @Eq ((⟨Cert.KernelIdeal.S131072, .f32⟩ : BufTy).Contents (Elt F)) (Φ₁ (Proc.devRef .tc Cert.KernelIdeal.main_v1065)) (Φ₂ (Proc.devRef .tc Cert.ReferenceIdeal.main_v1071)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 29) rfl) :) e30
  have e33 : @Eq ((⟨Cert.KernelIdeal.S131072, .f32⟩ : BufTy).Contents (Elt F)) (Φ₁ (Proc.devRef .tc Cert.KernelIdeal.main_v1066)) (Φ₂ (Proc.devRef .tc Cert.ReferenceIdeal.main_v1072)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 30) rfl) :) e19 e31
  have e34 : @Eq ((⟨Cert.KernelIdeal.S131072, .f32⟩ : BufTy).Contents (Elt F)) (Φ₁ (Proc.devRef .tc Cert.KernelIdeal.main_v1067)) (Φ₂ (Proc.devRef .tc Cert.ReferenceIdeal.main_v1073)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 31) rfl) :) e30 e32
  have e35 : @Eq ((⟨Cert.KernelIdeal.S131072, .i32⟩ : BufTy).Contents (Elt F)) (Φ₁ (Proc.devRef .tc Cert.KernelIdeal.main_v1068)) (Φ₂ (Proc.devRef .tc Cert.ReferenceIdeal.main_v1074)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 32) rfl) :) e31
  have e36 : @Eq ((⟨Cert.KernelIdeal.S_, .i32⟩ : BufTy).Contents (Elt F)) (Φ₁ (Proc.devRef .tc Cert.KernelIdeal.main_c_336)) (Φ₂ (Proc.devRef .tc Cert.ReferenceIdeal.main_c_336)) := step0 (β := ((⟨Cert.KernelIdeal.S_, .i32⟩ : BufTy).Contents (Elt F))) (eq0 (at_ fa0 (i := 148) rfl) :) (eq0 (at_ fb1 (i := 33) rfl) :)
  have e37 : @Eq ((⟨Cert.KernelIdeal.S_, .i32⟩ : BufTy).Contents (Elt F)) (Φ₁ (Proc.devRef .tc Cert.KernelIdeal.main_c_337)) (Φ₂ (Proc.devRef .tc Cert.ReferenceIdeal.main_c_337)) := step0 (β := ((⟨Cert.KernelIdeal.S_, .i32⟩ : BufTy).Contents (Elt F))) (eq0 (at_ fa0 (i := 149) rfl) :) (eq0 (at_ fb1 (i := 34) rfl) :)
  have e38 : @Eq ((⟨Cert.KernelIdeal.S_, .i32⟩ : BufTy).Contents (Elt F)) (Φ₁ (Proc.devRef .tc Cert.KernelIdeal.main_call32_v0)) (Φ₂ (Proc.devRef .tc Cert.ReferenceIdeal.main_call32_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 35) rfl) :) e36
  have e39 : @Eq ((⟨Cert.KernelIdeal.S131072, .i32⟩ : BufTy).Contents (Elt F)) (Φ₁ (Proc.devRef .tc Cert.KernelIdeal.main_call32_v1)) (Φ₂ (Proc.devRef .tc Cert.ReferenceIdeal.main_call32_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 36) rfl) :) e38
  have e40 : @Eq ((⟨Cert.KernelIdeal.S131072, .i32⟩ : BufTy).Contents (Elt F)) (Φ₁ (Proc.devRef .tc Cert.KernelIdeal.main_call32_v2)) (Φ₂ (Proc.devRef .tc Cert.ReferenceIdeal.main_call32_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 37) rfl) :) e39 e35
  have e41 : @Eq ((⟨Cert.KernelIdeal.S_, .i32⟩ : BufTy).Contents (Elt F)) (Φ₁ (Proc.devRef .tc Cert.KernelIdeal.main_call32_v3)) (Φ₂ (Proc.devRef .tc Cert.ReferenceIdeal.main_call32_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 38) rfl) :) e37
  have e42 : @Eq ((⟨Cert.KernelIdeal.S131072, .i32⟩ : BufTy).Contents (Elt F)) (Φ₁ (Proc.devRef .tc Cert.KernelIdeal.main_call32_v4)) (Φ₂ (Proc.devRef .tc Cert.ReferenceIdeal.main_call32_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 39) rfl) :) e41
  have e43 : @Eq ((⟨Cert.KernelIdeal.S131072, .i32⟩ : BufTy).Contents (Elt F)) (Φ₁ (Proc.devRef .tc Cert.KernelIdeal.main_v1069)) (Φ₂ (Proc.devRef .tc Cert.ReferenceIdeal.main_v1075)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 40) rfl) :) e42 e40
  have e44 : @Eq ((⟨Cert.KernelIdeal.S_, .i32⟩ : BufTy).Contents (Elt F)) (Φ₁ (Proc.devRef .tc Cert.KernelIdeal.main_c_338)) (Φ₂ (Proc.devRef .tc Cert.ReferenceIdeal.main_c_338)) := step0 (β := ((⟨Cert.KernelIdeal.S_, .i32⟩ : BufTy).Contents (Elt F))) (eq0 (at_ fa2 (i := 0) rfl) :) (eq0 (at_ fb1 (i := 41) rfl) :)
  have e45 : @Eq ((⟨Cert.KernelIdeal.S131072, .i32⟩ : BufTy).Contents (Elt F)) (Φ₁ (Proc.devRef .tc Cert.KernelIdeal.main_v1070)) (Φ₂ (Proc.devRef .tc Cert.ReferenceIdeal.main_v1076)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 42) rfl) :) e44
  have e46 : @Eq ((⟨Cert.KernelIdeal.S131072, .i32⟩ : BufTy).Contents (Elt F)) (Φ₁ (Proc.devRef .tc Cert.KernelIdeal.main_v1071)) (Φ₂ (Proc.devRef .tc Cert.ReferenceIdeal.main_v1077)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 43) rfl) :) e43 e45
  have e47 : @Eq ((⟨Cert.KernelIdeal.S_, .i32⟩ : BufTy).Contents (Elt F)) (Φ₁ (Proc.devRef .tc Cert.KernelIdeal.main_c_339)) (Φ₂ (Proc.devRef .tc Cert.ReferenceIdeal.main_c_339)) := step0 (β := ((⟨Cert.KernelIdeal.S_, .i32⟩ : BufTy).Contents (Elt F))) (eq0 (at_ fa2 (i := 3) rfl) :) (eq0 (at_ fb1 (i := 44) rfl) :)
  have e48 : @Eq ((⟨Cert.KernelIdeal.S_, .i32⟩ : BufTy).Contents (Elt F)) (Φ₁ (Proc.devRef .tc Cert.KernelIdeal.main_c_340)) (Φ₂ (Proc.devRef .tc Cert.ReferenceIdeal.main_c_340)) := step0 (β := ((⟨Cert.KernelIdeal.S_, .i32⟩ : BufTy).Contents (Elt F))) (eq0 (at_ fa2 (i := 4) rfl) :) (eq0 (at_ fb1 (i := 45) rfl) :)
  have e49 : @Eq ((⟨Cert.KernelIdeal.S_, .i32⟩ : BufTy).Contents (Elt F)) (Φ₁ (Proc.devRef .tc Cert.KernelIdeal.main_call33_v0)) (Φ₂ (Proc.devRef .tc Cert.ReferenceIdeal.main_call33_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 46) rfl) :) e47
  have e50 : @Eq ((⟨Cert.KernelIdeal.S131072, .i32⟩ : BufTy).Contents (Elt F)) (Φ₁ (Proc.devRef .tc Cert.KernelIdeal.main_call33_v1)) (Φ₂ (Proc.devRef .tc Cert.ReferenceIdeal.main_call33_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 47) rfl) :) e49
  have e51 : @Eq ((⟨Cert.KernelIdeal.S131072, .i32⟩ : BufTy).Contents (Elt F)) (Φ₁ (Proc.devRef .tc Cert.KernelIdeal.main_call33_v2)) (Φ₂ (Proc.devRef .tc Cert.ReferenceIdeal.main_call33_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 48) rfl) :) e50 e46
  have e52 : @Eq ((⟨Cert.KernelIdeal.S_, .i32⟩ : BufTy).Contents (Elt F)) (Φ₁ (Proc.devRef .tc Cert.KernelIdeal.main_call33_v3)) (Φ₂ (Proc.devRef .tc Cert.ReferenceIdeal.main_call33_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 49) rfl) :) e48
  have e53 : @Eq ((⟨Cert.KernelIdeal.S131072, .i32⟩ : BufTy).Contents (Elt F)) (Φ₁ (Proc.devRef .tc Cert.KernelIdeal.main_call33_v4)) (Φ₂ (Proc.devRef .tc Cert.ReferenceIdeal.main_call33_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 50) rfl) :) e52
  have e54 : @Eq ((⟨Cert.KernelIdeal.S131072, .i32⟩ : BufTy).Contents (Elt F)) (Φ₁ (Proc.devRef .tc Cert.KernelIdeal.main_v1072)) (Φ₂ (Proc.devRef .tc Cert.ReferenceIdeal.main_v1078)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 51) rfl) :) e53 e51
  have e55 : @Eq ((⟨Cert.KernelIdeal.S131072, .i32⟩ : BufTy).Contents (Elt F)) (Φ₁ (Proc.devRef .tc Cert.KernelIdeal.main_v1073)) (Φ₂ (Proc.devRef .tc Cert.ReferenceIdeal.main_v1079)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 52) rfl) :) e32
  have e56 : @Eq ((⟨Cert.KernelIdeal.S_, .i32⟩ : BufTy).Contents (Elt F)) (Φ₁ (Proc.devRef .tc Cert.KernelIdeal.main_c_341)) (Φ₂ (Proc.devRef .tc Cert.ReferenceIdeal.main_c_341)) := step0 (β := ((⟨Cert.KernelIdeal.S_, .i32⟩ : BufTy).Contents (Elt F))) (eq0 (at_ fa4 (i := 1) rfl) :) (eq0 (at_ fb1 (i := 53) rfl) :)
  have e57 : @Eq ((⟨Cert.KernelIdeal.S_, .i32⟩ : BufTy).Contents (Elt F)) (Φ₁ (Proc.devRef .tc Cert.KernelIdeal.main_c_342)) (Φ₂ (Proc.devRef .tc Cert.ReferenceIdeal.main_c_342)) := step0 (β := ((⟨Cert.KernelIdeal.S_, .i32⟩ : BufTy).Contents (Elt F))) (eq0 (at_ fa4 (i := 2) rfl) :) (eq0 (at_ fb1 (i := 54) rfl) :)
  have e58 : @Eq ((⟨Cert.KernelIdeal.S_, .i32⟩ : BufTy).Contents (Elt F)) (Φ₁ (Proc.devRef .tc Cert.KernelIdeal.main_call34_v0)) (Φ₂ (Proc.devRef .tc Cert.ReferenceIdeal.main_call34_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 55) rfl) :) e56
  have e59 : @Eq ((⟨Cert.KernelIdeal.S131072, .i32⟩ : BufTy).Contents (Elt F)) (Φ₁ (Proc.devRef .tc Cert.KernelIdeal.main_call34_v1)) (Φ₂ (Proc.devRef .tc Cert.ReferenceIdeal.main_call34_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 56) rfl) :) e58
  have e60 : @Eq ((⟨Cert.KernelIdeal.S131072, .i32⟩ : BufTy).Contents (Elt F)) (Φ₁ (Proc.devRef .tc Cert.KernelIdeal.main_call34_v2)) (Φ₂ (Proc.devRef .tc Cert.ReferenceIdeal.main_call34_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 57) rfl) :) e59 e55
  have e61 : @Eq ((⟨Cert.KernelIdeal.S_, .i32⟩ : BufTy).Contents (Elt F)) (Φ₁ (Proc.devRef .tc Cert.KernelIdeal.main_call34_v3)) (Φ₂ (Proc.devRef .tc Cert.ReferenceIdeal.main_call34_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 58) rfl) :) e57
  have e62 : @Eq ((⟨Cert.KernelIdeal.S131072, .i32⟩ : BufTy).Contents (Elt F)) (Φ₁ (Proc.devRef .tc Cert.KernelIdeal.main_call34_v4)) (Φ₂ (Proc.devRef .tc Cert.ReferenceIdeal.main_call34_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 59) rfl) :) e61
  have e63 : @Eq ((⟨Cert.KernelIdeal.S131072, .i32⟩ : BufTy).Contents (Elt F)) (Φ₁ (Proc.devRef .tc Cert.KernelIdeal.main_v1074)) (Φ₂ (Proc.devRef .tc Cert.ReferenceIdeal.main_v1080)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 60) rfl) :) e62 e60
  have e64 : @Eq ((⟨Cert.KernelIdeal.S_, .i32⟩ : BufTy).Contents (Elt F)) (Φ₁ (Proc.devRef .tc Cert.KernelIdeal.main_c_343)) (Φ₂ (Proc.devRef .tc Cert.ReferenceIdeal.main_c_343)) := step0 (β := ((⟨Cert.KernelIdeal.S_, .i32⟩ : BufTy).Contents (Elt F))) (eq0 (at_ fa6 (i := 0) rfl) :) (eq0 (at_ fb1 (i := 61) rfl) :)
  have e65 : @Eq ((⟨Cert.KernelIdeal.S131072, .i32⟩ : BufTy).Contents (Elt F)) (Φ₁ (Proc.devRef .tc Cert.KernelIdeal.main_v1075)) (Φ₂ (Proc.devRef .tc Cert.ReferenceIdeal.main_v1081)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 62) rfl) :) e64
  have e66 : @Eq ((⟨Cert.KernelIdeal.S131072, .i32⟩ : BufTy).Contents (Elt F)) (Φ₁ (Proc.devRef .tc Cert.KernelIdeal.main_v1076)) (Φ₂ (Proc.devRef .tc Cert.ReferenceIdeal.main_v1082)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 63) rfl) :) e63 e65
  have e67 : @Eq ((⟨Cert.KernelIdeal.S_, .i32⟩ : BufTy).Contents (Elt F)) (Φ₁ (Proc.devRef .tc Cert.KernelIdeal.main_c_344)) (Φ₂ (Proc.devRef .tc Cert.ReferenceIdeal.main_c_344)) := step0 (β := ((⟨Cert.KernelIdeal.S_, .i32⟩ : BufTy).Contents (Elt F))) (eq0 (at_ fa6 (i := 3) rfl) :) (eq0 (at_ fb1 (i := 64) rfl) :)
  have e68 : @Eq ((⟨Cert.KernelIdeal.S_, .i32⟩ : BufTy).Contents (Elt F)) (Φ₁ (Proc.devRef .tc Cert.KernelIdeal.main_c_345)) (Φ₂ (Proc.devRef .tc Cert.ReferenceIdeal.main_c_345)) := step0 (β := ((⟨Cert.KernelIdeal.S_, .i32⟩ : BufTy).Contents (Elt F))) (eq0 (at_ fa6 (i := 4) rfl) :) (eq0 (at_ fb1 (i := 65) rfl) :)
  have e69 : @Eq ((⟨Cert.KernelIdeal.S_, .i32⟩ : BufTy).Contents (Elt F)) (Φ₁ (Proc.devRef .tc Cert.KernelIdeal.main_call35_v0)) (Φ₂ (Proc.devRef .tc Cert.ReferenceIdeal.main_call35_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 66) rfl) :) e67
  have e70 : @Eq ((⟨Cert.KernelIdeal.S131072, .i32⟩ : BufTy).Contents (Elt F)) (Φ₁ (Proc.devRef .tc Cert.KernelIdeal.main_call35_v1)) (Φ₂ (Proc.devRef .tc Cert.ReferenceIdeal.main_call35_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 67) rfl) :) e69
  have e71 : @Eq ((⟨Cert.KernelIdeal.S131072, .i32⟩ : BufTy).Contents (Elt F)) (Φ₁ (Proc.devRef .tc Cert.KernelIdeal.main_call35_v2)) (Φ₂ (Proc.devRef .tc Cert.ReferenceIdeal.main_call35_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 68) rfl) :) e70 e66
  have e72 : @Eq ((⟨Cert.KernelIdeal.S_, .i32⟩ : BufTy).Contents (Elt F)) (Φ₁ (Proc.devRef .tc Cert.KernelIdeal.main_call35_v3)) (Φ₂ (Proc.devRef .tc Cert.ReferenceIdeal.main_call35_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 69) rfl) :) e68
  have e73 : @Eq ((⟨Cert.KernelIdeal.S131072, .i32⟩ : BufTy).Contents (Elt F)) (Φ₁ (Proc.devRef .tc Cert.KernelIdeal.main_call35_v4)) (Φ₂ (Proc.devRef .tc Cert.ReferenceIdeal.main_call35_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 70) rfl) :) e72
  have e74 : @Eq ((⟨Cert.KernelIdeal.S131072, .i32⟩ : BufTy).Contents (Elt F)) (Φ₁ (Proc.devRef .tc Cert.KernelIdeal.main_v1077)) (Φ₂ (Proc.devRef .tc Cert.ReferenceIdeal.main_v1083)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 71) rfl) :) e73 e71
  have e75 : @Eq ((⟨Cert.KernelIdeal.S_, .i32⟩ : BufTy).Contents (Elt F)) (Φ₁ (Proc.devRef .tc Cert.KernelIdeal.main_c_346)) (Φ₂ (Proc.devRef .tc Cert.ReferenceIdeal.main_c_346)) := step0 (β := ((⟨Cert.KernelIdeal.S_, .i32⟩ : BufTy).Contents (Elt F))) (eq0 (at_ fa8 (i := 0) rfl) :) (eq0 (at_ fb1 (i := 72) rfl) :)
  have e76 : @Eq ((⟨Cert.KernelIdeal.S131072, .i32⟩ : BufTy).Contents (Elt F)) (Φ₁ (Proc.devRef .tc Cert.KernelIdeal.main_v1078)) (Φ₂ (Proc.devRef .tc Cert.ReferenceIdeal.main_v1084)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 73) rfl) :) e75
  have e77 : @Eq ((⟨Cert.KernelIdeal.S131072, .i1⟩ : BufTy).Contents (Elt F)) (Φ₁ (Proc.devRef .tc Cert.KernelIdeal.main_v1079)) (Φ₂ (Proc.devRef .tc Cert.ReferenceIdeal.main_v1085)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 74) rfl) :) e63 e76
  have e78 : @Eq ((⟨Cert.KernelIdeal.S_, .i32⟩ : BufTy).Contents (Elt F)) (Φ₁ (Proc.devRef .tc Cert.KernelIdeal.main_c_347)) (Φ₂ (Proc.devRef .tc Cert.ReferenceIdeal.main_c_347)) := step0 (β := ((⟨Cert.KernelIdeal.S_, .i32⟩ : BufTy).Contents (Elt F))) (eq0 (at_ fa8 (i := 3) rfl) :) (eq0 (at_ fb1 (i := 75) rfl) :)
  have e79 : @Eq ((⟨Cert.KernelIdeal.S131072, .i32⟩ : BufTy).Contents (Elt F)) (Φ₁ (Proc.devRef .tc Cert.KernelIdeal.main_v1080)) (Φ₂ (Proc.devRef .tc Cert.ReferenceIdeal.main_v1086)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 76) rfl) :) e78
  have e80 : @Eq ((⟨Cert.KernelIdeal.S131072, .i32⟩ : BufTy).Contents (Elt F)) (Φ₁ (Proc.devRef .tc Cert.KernelIdeal.main_v1081)) (Φ₂ (Proc.devRef .tc Cert.ReferenceIdeal.main_v1087)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 77) rfl) :) e63 e79
  have e81 : @Eq ((⟨Cert.KernelIdeal.S131072, .i32⟩ : BufTy).Contents (Elt F)) (Φ₁ (Proc.devRef .tc Cert.KernelIdeal.main_v1082)) (Φ₂ (Proc.devRef .tc Cert.ReferenceIdeal.main_v1088)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 78) rfl) :) e77 e80 e63
  have e82 : @Eq ((⟨Cert.KernelIdeal.S_, .i32⟩ : BufTy).Contents (Elt F)) (Φ₁ (Proc.devRef .tc Cert.KernelIdeal.main_c_348)) (Φ₂ (Proc.devRef .tc Cert.ReferenceIdeal.main_c_348)) := step0 (β := ((⟨Cert.KernelIdeal.S_, .i32⟩ : BufTy).Contents (Elt F))) (eq0 (at_ fa8 (i := 7) rfl) :) (eq0 (at_ fb1 (i := 79) rfl) :)
  have e83 : @Eq ((⟨Cert.KernelIdeal.S131072, .i32⟩ : BufTy).Contents (Elt F)) (Φ₁ (Proc.devRef .tc Cert.KernelIdeal.main_v1083)) (Φ₂ (Proc.devRef .tc Cert.ReferenceIdeal.main_v1089)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb2 (i := 0) rfl) :) e82
  have e84 : @Eq ((⟨Cert.KernelIdeal.S131072, .i1⟩ : BufTy).Contents (Elt F)) (Φ₁ (Proc.devRef .tc Cert.KernelIdeal.main_v1084)) (Φ₂ (Proc.devRef .tc Cert.ReferenceIdeal.main_v1090)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb2 (i := 1) rfl) :) e43 e83
  have e85 : @Eq ((⟨Cert.KernelIdeal.S_, .i32⟩ : BufTy).Contents (Elt F)) (Φ₁ (Proc.devRef .tc Cert.KernelIdeal.main_c_349)) (Φ₂ (Proc.devRef .tc Cert.ReferenceIdeal.main_c_349)) := step0 (β := ((⟨Cert.KernelIdeal.S_, .i32⟩ : BufTy).Contents (Elt F))) (eq0 (at_ fa8 (i := 10) rfl) :) (eq0 (at_ fb2 (i := 2) rfl) :)
  have e86 : @Eq ((⟨Cert.KernelIdeal.S131072, .i32⟩ : BufTy).Contents (Elt F)) (Φ₁ (Proc.devRef .tc Cert.KernelIdeal.main_v1085)) (Φ₂ (Proc.devRef .tc Cert.ReferenceIdeal.main_v1091)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb2 (i := 3) rfl) :) e85
  have e87 : @Eq ((⟨Cert.KernelIdeal.S131072, .i32⟩ : BufTy).Contents (Elt F)) (Φ₁ (Proc.devRef .tc Cert.KernelIdeal.main_v1086)) (Φ₂ (Proc.devRef .tc Cert.ReferenceIdeal.main_v1092)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb2 (i := 4) rfl) :) e43 e86
  have e88 : @Eq ((⟨Cert.KernelIdeal.S131072, .i32⟩ : BufTy).Contents (Elt F)) (Φ₁ (Proc.devRef .tc Cert.KernelIdeal.main_v1087)) (Φ₂ (Proc.devRef .tc Cert.ReferenceIdeal.main_v1093)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb2 (i := 5) rfl) :) e84 e87 e43
  have e89 : @Eq ((⟨Cert.KernelIdeal.S131072x1, .i32⟩ : BufTy).Contents (Elt F)) (Φ₁ (Proc.devRef .tc Cert.KernelIdeal.main_v1088)) (Φ₂ (Proc.devRef .tc Cert.ReferenceIdeal.main_v1094)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb2 (i := 6) rfl) :) e81
  have e90 : @Eq ((⟨Cert.KernelIdeal.S131072x1, .i32⟩ : BufTy).Contents (Elt F)) (Φ₁ (Proc.devRef .tc Cert.KernelIdeal.main_v1089)) (Φ₂ (Proc.devRef .tc Cert.ReferenceIdeal.main_v1095)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb2 (i := 7) rfl) :) e88
  have e91 : @Eq ((⟨Cert.KernelIdeal.S131072x2, .i32⟩ : BufTy).Contents (Elt F)) (Φ₁ (Proc.devRef .tc Cert.KernelIdeal.main_v1090)) (Φ₂ (Proc.devRef .tc Cert.ReferenceIdeal.main_v1096)) := by rw [eq2 (at_ fa8 (i := 16) rfl), eq2 (at_ fb2 (i := 8) rfl), e89, e90] <;> rfl
  have e92 : @Eq ((⟨Cert.KernelIdeal.S32x131072, .f32⟩ : BufTy).Contents (Elt F)) (Φ₁ (Proc.devRef .tc Cert.KernelIdeal.main_v1091)) (Φ₂ (Proc.devRef .tc Cert.ReferenceIdeal.main_v1097)) := by rw [eq2 (at_ fa8 (i := 17) rfl), eq2 (at_ fb2 (i := 9) rfl), x2, e91] <;> rfl
  have e93 : @Eq ((⟨Cert.KernelIdeal.S_, .i32⟩ : BufTy).Contents (Elt F)) (Φ₁ (Proc.devRef .tc Cert.KernelIdeal.main_c_350)) (Φ₂ (Proc.devRef .tc Cert.ReferenceIdeal.main_c_350)) := step0 (β := ((⟨Cert.KernelIdeal.S_, .i32⟩ : BufTy).Contents (Elt F))) (eq0 (at_ fa8 (i := 18) rfl) :) (eq0 (at_ fb2 (i := 10) rfl) :)
  have e94 : @Eq ((⟨Cert.KernelIdeal.S131072, .i32⟩ : BufTy).Contents (Elt F)) (Φ₁ (Proc.devRef .tc Cert.KernelIdeal.main_v1092)) (Φ₂ (Proc.devRef .tc Cert.ReferenceIdeal.main_v1098)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb2 (i := 11) rfl) :) e93
  have e95 : @Eq ((⟨Cert.KernelIdeal.S131072, .i1⟩ : BufTy).Contents (Elt F)) (Φ₁ (Proc.devRef .tc Cert.KernelIdeal.main_v1093)) (Φ₂ (Proc.devRef .tc Cert.ReferenceIdeal.main_v1099)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 12) rfl) :) e63 e94
  have e96 : @Eq ((⟨Cert.KernelIdeal.S_, .i32⟩ : BufTy).Contents (Elt F)) (Φ₁ (Proc.devRef .tc Cert.KernelIdeal.main_c_351)) (Φ₂ (Proc.devRef .tc Cert.ReferenceIdeal.main_c_351)) := step0 (β := ((⟨Cert.KernelIdeal.S_, .i32⟩ : BufTy).Contents (Elt F))) (eq0 (at_ fa8 (i := 21) rfl) :) (eq0 (at_ fb2 (i := 13) rfl) :)
  have e97 : @Eq ((⟨Cert.KernelIdeal.S131072, .i32⟩ : BufTy).Contents (Elt F)) (Φ₁ (Proc.devRef .tc Cert.KernelIdeal.main_v1094)) (Φ₂ (Proc.devRef .tc Cert.ReferenceIdeal.main_v1100)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 14) rfl) :) e96
  have e98 : @Eq ((⟨Cert.KernelIdeal.S131072, .i32⟩ : BufTy).Contents (Elt F)) (Φ₁ (Proc.devRef .tc Cert.KernelIdeal.main_v1095)) (Φ₂ (Proc.devRef .tc Cert.ReferenceIdeal.main_v1101)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 15) rfl) :) e63 e97
  have e99 : @Eq ((⟨Cert.KernelIdeal.S131072, .i32⟩ : BufTy).Contents (Elt F)) (Φ₁ (Proc.devRef .tc Cert.KernelIdeal.main_v1096)) (Φ₂ (Proc.devRef .tc Cert.ReferenceIdeal.main_v1102)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 16) rfl) :) e95 e98 e63
  have e100 : @Eq ((⟨Cert.KernelIdeal.S_, .i32⟩ : BufTy).Contents (Elt F)) (Φ₁ (Proc.devRef .tc Cert.KernelIdeal.main_c_352)) (Φ₂ (Proc.devRef .tc Cert.ReferenceIdeal.main_c_352)) := step0 (β := ((⟨Cert.KernelIdeal.S_, .i32⟩ : BufTy).Contents (Elt F))) (eq0 (at_ fa8 (i := 25) rfl) :) (eq0 (at_ fb2 (i := 17) rfl) :)
  have e101 : @Eq ((⟨Cert.KernelIdeal.S131072, .i32⟩ : BufTy).Contents (Elt F)) (Φ₁ (Proc.devRef .tc Cert.KernelIdeal.main_v1097)) (Φ₂ (Proc.devRef .tc Cert.ReferenceIdeal.main_v1103)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 18) rfl) :) e100
  have e102 : @Eq ((⟨Cert.KernelIdeal.S131072, .i1⟩ : BufTy).Contents (Elt F)) (Φ₁ (Proc.devRef .tc Cert.KernelIdeal.main_v1098)) (Φ₂ (Proc.devRef .tc Cert.ReferenceIdeal.main_v1104)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 19) rfl) :) e54 e101
  have e103 : @Eq ((⟨Cert.KernelIdeal.S_, .i32⟩ : BufTy).Contents (Elt F)) (Φ₁ (Proc.devRef .tc Cert.KernelIdeal.main_c_353)) (Φ₂ (Proc.devRef .tc Cert.ReferenceIdeal.main_c_353)) := step0 (β := ((⟨Cert.KernelIdeal.S_, .i32⟩ : BufTy).Contents (Elt F))) (eq0 (at_ fa8 (i := 28) rfl) :) (eq0 (at_ fb2 (i := 20) rfl) :)
  have e104 : @Eq ((⟨Cert.KernelIdeal.S131072, .i32⟩ : BufTy).Contents (Elt F)) (Φ₁ (Proc.devRef .tc Cert.KernelIdeal.main_v1099)) (Φ₂ (Proc.devRef .tc Cert.ReferenceIdeal.main_v1105)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 21) rfl) :) e103
  have e105 : @Eq ((⟨Cert.KernelIdeal.S131072, .i32⟩ : BufTy).Contents (Elt F)) (Φ₁ (Proc.devRef .tc Cert.KernelIdeal.main_v1100)) (Φ₂ (Proc.devRef .tc Cert.ReferenceIdeal.main_v1106)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 22) rfl) :) e54 e104
  have e106 : @Eq ((⟨Cert.KernelIdeal.S131072, .i32⟩ : BufTy).Contents (Elt F)) (Φ₁ (Proc.devRef .tc Cert.KernelIdeal.main_v1101)) (Φ₂ (Proc.devRef .tc Cert.ReferenceIdeal.main_v1107)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 23) rfl) :) e102 e105 e54
  have e107 : @Eq ((⟨Cert.KernelIdeal.S131072x1, .i32⟩ : BufTy).Contents (Elt F)) (Φ₁ (Proc.devRef .tc Cert.KernelIdeal.main_v1102)) (Φ₂ (Proc.devRef .tc Cert.ReferenceIdeal.main_v1108)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 24) rfl) :) e99
  have e108 : @Eq ((⟨Cert.KernelIdeal.S131072x1, .i32⟩ : BufTy).Contents (Elt F)) (Φ₁ (Proc.devRef .tc Cert.KernelIdeal.main_v1103)) (Φ₂ (Proc.devRef .tc Cert.ReferenceIdeal.main_v1109)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 25) rfl) :) e106
  have e109 : @Eq ((⟨Cert.KernelIdeal.S131072x2, .i32⟩ : BufTy).Contents (Elt F)) (Φ₁ (Proc.devRef .tc Cert.KernelIdeal.main_v1104)) (Φ₂ (Proc.devRef .tc Cert.ReferenceIdeal.main_v1110)) := by rw [eq2 (at_ fa8 (i := 34) rfl), eq2 (at_ fb2 (i := 26) rfl), e107, e108] <;> rfl
  have e110 : @Eq ((⟨Cert.KernelIdeal.S32x131072, .f32⟩ : BufTy).Contents (Elt F)) (Φ₁ (Proc.devRef .tc Cert.KernelIdeal.main_v1105)) (Φ₂ (Proc.devRef .tc Cert.ReferenceIdeal.main_v1111)) := by rw [eq2 (at_ fa8 (i := 35) rfl), eq2 (at_ fb2 (i := 27) rfl), x2, e109] <;> rfl
  have e111 : @Eq ((⟨Cert.KernelIdeal.S_, .i32⟩ : BufTy).Contents (Elt F)) (Φ₁ (Proc.devRef .tc Cert.KernelIdeal.main_c_354)) (Φ₂ (Proc.devRef .tc Cert.ReferenceIdeal.main_c_354)) := step0 (β := ((⟨Cert.KernelIdeal.S_, .i32⟩ : BufTy).Contents (Elt F))) (eq0 (at_ fa8 (i := 36) rfl) :) (eq0 (at_ fb2 (i := 28) rfl) :)
  have e112 : @Eq ((⟨Cert.KernelIdeal.S131072, .i32⟩ : BufTy).Contents (Elt F)) (Φ₁ (Proc.devRef .tc Cert.KernelIdeal.main_v1106)) (Φ₂ (Proc.devRef .tc Cert.ReferenceIdeal.main_v1112)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 29) rfl) :) e111
  have e113 : @Eq ((⟨Cert.KernelIdeal.S131072, .i1⟩ : BufTy).Contents (Elt F)) (Φ₁ (Proc.devRef .tc Cert.KernelIdeal.main_v1107)) (Φ₂ (Proc.devRef .tc Cert.ReferenceIdeal.main_v1113)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 30) rfl) :) e74 e112
  have e114 : @Eq ((⟨Cert.KernelIdeal.S_, .i32⟩ : BufTy).Contents (Elt F)) (Φ₁ (Proc.devRef .tc Cert.KernelIdeal.main_c_355)) (Φ₂ (Proc.devRef .tc Cert.ReferenceIdeal.main_c_355)) := step0 (β := ((⟨Cert.KernelIdeal.S_, .i32⟩ : BufTy).Contents (Elt F))) (eq0 (at_ fa8 (i := 39) rfl) :) (eq0 (at_ fb2 (i := 31) rfl) :)
  have e115 : @Eq ((⟨Cert.KernelIdeal.S131072, .i32⟩ : BufTy).Contents (Elt F)) (Φ₁ (Proc.devRef .tc Cert.KernelIdeal.main_v1108)) (Φ₂ (Proc.devRef .tc Cert.ReferenceIdeal.main_v1114)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 32) rfl) :) e114
  have e116 : @Eq ((⟨Cert.KernelIdeal.S131072, .i32⟩ : BufTy).Contents (Elt F)) (Φ₁ (Proc.devRef .tc Cert.KernelIdeal.main_v1109)) (Φ₂ (Proc.devRef .tc Cert.ReferenceIdeal.main_v1115)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 33) rfl) :) e74 e115
  have e117 : @Eq ((⟨Cert.KernelIdeal.S131072, .i32⟩ : BufTy).Contents (Elt F)) (Φ₁ (Proc.devRef .tc Cert.KernelIdeal.main_v1110)) (Φ₂ (Proc.devRef .tc Cert.ReferenceIdeal.main_v1116)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 34) rfl) :) e113 e116 e74
  have e118 : @Eq ((⟨Cert.KernelIdeal.S_, .i32⟩ : BufTy).Contents (Elt F)) (Φ₁ (Proc.devRef .tc Cert.KernelIdeal.main_c_356)) (Φ₂ (Proc.devRef .tc Cert.ReferenceIdeal.main_c_356)) := step0 (β := ((⟨Cert.KernelIdeal.S_, .i32⟩ : BufTy).Contents (Elt F))) (eq0 (at_ fa8 (i := 43) rfl) :) (eq0 (at_ fb2 (i := 35) rfl) :)
  have e119 : @Eq ((⟨Cert.KernelIdeal.S131072, .i32⟩ : BufTy).Contents (Elt F)) (Φ₁ (Proc.devRef .tc Cert.KernelIdeal.main_v1111)) (Φ₂ (Proc.devRef .tc Cert.ReferenceIdeal.main_v1117)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 36) rfl) :) e118
  have e120 : @Eq ((⟨Cert.KernelIdeal.S131072, .i1⟩ : BufTy).Contents (Elt F)) (Φ₁ (Proc.devRef .tc Cert.KernelIdeal.main_v1112)) (Φ₂ (Proc.devRef .tc Cert.ReferenceIdeal.main_v1118)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 37) rfl) :) e43 e119
  have e121 : @Eq ((⟨Cert.KernelIdeal.S_, .i32⟩ : BufTy).Contents (Elt F)) (Φ₁ (Proc.devRef .tc Cert.KernelIdeal.main_c_357)) (Φ₂ (Proc.devRef .tc Cert.ReferenceIdeal.main_c_357)) := step0 (β := ((⟨Cert.KernelIdeal.S_, .i32⟩ : BufTy).Contents (Elt F))) (eq0 (at_ fa8 (i := 46) rfl) :) (eq0 (at_ fb2 (i := 38) rfl) :)
  have e122 : @Eq ((⟨Cert.KernelIdeal.S131072, .i32⟩ : BufTy).Contents (Elt F)) (Φ₁ (Proc.devRef .tc Cert.KernelIdeal.main_v1113)) (Φ₂ (Proc.devRef .tc Cert.ReferenceIdeal.main_v1119)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 39) rfl) :) e121
  have e123 : @Eq ((⟨Cert.KernelIdeal.S131072, .i32⟩ : BufTy).Contents (Elt F)) (Φ₁ (Proc.devRef .tc Cert.KernelIdeal.main_v1114)) (Φ₂ (Proc.devRef .tc Cert.ReferenceIdeal.main_v1120)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 40) rfl) :) e43 e122
  have e124 : @Eq ((⟨Cert.KernelIdeal.S131072, .i32⟩ : BufTy).Contents (Elt F)) (Φ₁ (Proc.devRef .tc Cert.KernelIdeal.main_v1115)) (Φ₂ (Proc.devRef .tc Cert.ReferenceIdeal.main_v1121)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 41) rfl) :) e120 e123 e43
  have e125 : @Eq ((⟨Cert.KernelIdeal.S131072x1, .i32⟩ : BufTy).Contents (Elt F)) (Φ₁ (Proc.devRef .tc Cert.KernelIdeal.main_v1116)) (Φ₂ (Proc.devRef .tc Cert.ReferenceIdeal.main_v1122)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 42) rfl) :) e117
  have e126 : @Eq ((⟨Cert.KernelIdeal.S131072x1, .i32⟩ : BufTy).Contents (Elt F)) (Φ₁ (Proc.devRef .tc Cert.KernelIdeal.main_v1117)) (Φ₂ (Proc.devRef .tc Cert.ReferenceIdeal.main_v1123)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 43) rfl) :) e124
  have e127 : @Eq ((⟨Cert.KernelIdeal.S131072x2, .i32⟩ : BufTy).Contents (Elt F)) (Φ₁ (Proc.devRef .tc Cert.KernelIdeal.main_v1118)) (Φ₂ (Proc.devRef .tc Cert.ReferenceIdeal.main_v1124)) := by rw [eq2 (at_ fa8 (i := 52) rfl), eq2 (at_ fb2 (i := 44) rfl), e125, e126] <;> rfl
  have e128 : @Eq ((⟨Cert.KernelIdeal.S32x131072, .f32⟩ : BufTy).Contents (Elt F)) (Φ₁ (Proc.devRef .tc Cert.KernelIdeal.main_v1119)) (Φ₂ (Proc.devRef .tc Cert.ReferenceIdeal.main_v1125)) := by rw [eq2 (at_ fa8 (i := 53) rfl), eq2 (at_ fb2 (i := 45) rfl), x2, e127] <;> rfl
  have e129 : @Eq ((⟨Cert.KernelIdeal.S_, .i32⟩ : BufTy).Contents (Elt F)) (Φ₁ (Proc.devRef .tc Cert.KernelIdeal.main_c_358)) (Φ₂ (Proc.devRef .tc Cert.ReferenceIdeal.main_c_358)) := step0 (β := ((⟨Cert.KernelIdeal.S_, .i32⟩ : BufTy).Contents (Elt F))) (eq0 (at_ fa8 (i := 54) rfl) :) (eq0 (at_ fb2 (i := 46) rfl) :)
  have e130 : @Eq ((⟨Cert.KernelIdeal.S131072, .i32⟩ : BufTy).Contents (Elt F)) (Φ₁ (Proc.devRef .tc Cert.KernelIdeal.main_v1120)) (Φ₂ (Proc.devRef .tc Cert.ReferenceIdeal.main_v1126)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 47) rfl) :) e129
  have e131 : @Eq ((⟨Cert.KernelIdeal.S131072, .i1⟩ : BufTy).Contents (Elt F)) (Φ₁ (Proc.devRef .tc Cert.KernelIdeal.main_v1121)) (Φ₂ (Proc.devRef .tc Cert.ReferenceIdeal.main_v1127)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 48) rfl) :) e74 e130
  have e132 : @Eq ((⟨Cert.KernelIdeal.S_, .i32⟩ : BufTy).Contents (Elt F)) (Φ₁ (Proc.devRef .tc Cert.KernelIdeal.main_c_359)) (Φ₂ (Proc.devRef .tc Cert.ReferenceIdeal.main_c_359)) := step0 (β := ((⟨Cert.KernelIdeal.S_, .i32⟩ : BufTy).Contents (Elt F))) (eq0 (at_ fa8 (i := 57) rfl) :) (eq0 (at_ fb2 (i := 49) rfl) :)
  have e133 : @Eq ((⟨Cert.KernelIdeal.S131072, .i32⟩ : BufTy).Contents (Elt F)) (Φ₁ (Proc.devRef .tc Cert.KernelIdeal.main_v1122)) (Φ₂ (Proc.devRef .tc Cert.ReferenceIdeal.main_v1128)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 50) rfl) :) e132
  have e134 : @Eq ((⟨Cert.KernelIdeal.S131072, .i32⟩ : BufTy).Contents (Elt F)) (Φ₁ (Proc.devRef .tc Cert.KernelIdeal.main_v1123)) (Φ₂ (Proc.devRef .tc Cert.ReferenceIdeal.main_v1129)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 51) rfl) :) e74 e133
  have e135 : @Eq ((⟨Cert.KernelIdeal.S131072, .i32⟩ : BufTy).Contents (Elt F)) (Φ₁ (Proc.devRef .tc Cert.KernelIdeal.main_v1124)) (Φ₂ (Proc.devRef .tc Cert.ReferenceIdeal.main_v1130)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 52) rfl) :) e131 e134 e74
  have e136 : @Eq ((⟨Cert.KernelIdeal.S_, .i32⟩ : BufTy).Contents (Elt F)) (Φ₁ (Proc.devRef .tc Cert.KernelIdeal.main_c_360)) (Φ₂ (Proc.devRef .tc Cert.ReferenceIdeal.main_c_360)) := step0 (β := ((⟨Cert.KernelIdeal.S_, .i32⟩ : BufTy).Contents (Elt F))) (eq0 (at_ fa8 (i := 61) rfl) :) (eq0 (at_ fb2 (i := 53) rfl) :)
  have e137 : @Eq ((⟨Cert.KernelIdeal.S131072, .i32⟩ : BufTy).Contents (Elt F)) (Φ₁ (Proc.devRef .tc Cert.KernelIdeal.main_v1125)) (Φ₂ (Proc.devRef .tc Cert.ReferenceIdeal.main_v1131)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 54) rfl) :) e136
  have e138 : @Eq ((⟨Cert.KernelIdeal.S131072, .i1⟩ : BufTy).Contents (Elt F)) (Φ₁ (Proc.devRef .tc Cert.KernelIdeal.main_v1126)) (Φ₂ (Proc.devRef .tc Cert.ReferenceIdeal.main_v1132)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 55) rfl) :) e54 e137
  have e139 : @Eq ((⟨Cert.KernelIdeal.S_, .i32⟩ : BufTy).Contents (Elt F)) (Φ₁ (Proc.devRef .tc Cert.KernelIdeal.main_c_361)) (Φ₂ (Proc.devRef .tc Cert.ReferenceIdeal.main_c_361)) := step0 (β := ((⟨Cert.KernelIdeal.S_, .i32⟩ : BufTy).Contents (Elt F))) (eq0 (at_ fa8 (i := 64) rfl) :) (eq0 (at_ fb2 (i := 56) rfl) :)
  have e140 : @Eq ((⟨Cert.KernelIdeal.S131072, .i32⟩ : BufTy).Contents (Elt F)) (Φ₁ (Proc.devRef .tc Cert.KernelIdeal.main_v1127)) (Φ₂ (Proc.devRef .tc Cert.ReferenceIdeal.main_v1133)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 57) rfl) :) e139
  have e141 : @Eq ((⟨Cert.KernelIdeal.S131072, .i32⟩ : BufTy).Contents (Elt F)) (Φ₁ (Proc.devRef .tc Cert.KernelIdeal.main_v1128)) (Φ₂ (Proc.devRef .tc Cert.ReferenceIdeal.main_v1134)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 58) rfl) :) e54 e140
  have e142 : @Eq ((⟨Cert.KernelIdeal.S131072, .i32⟩ : BufTy).Contents (Elt F)) (Φ₁ (Proc.devRef .tc Cert.KernelIdeal.main_v1129)) (Φ₂ (Proc.devRef .tc Cert.ReferenceIdeal.main_v1135)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 59) rfl) :) e138 e141 e54
  have e143 : @Eq ((⟨Cert.KernelIdeal.S131072x1, .i32⟩ : BufTy).Contents (Elt F)) (Φ₁ (Proc.devRef .tc Cert.KernelIdeal.main_v1130)) (Φ₂ (Proc.devRef .tc Cert.ReferenceIdeal.main_v1136)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb3 (i := 0) rfl) :) e135
  have e144 : @Eq ((⟨Cert.KernelIdeal.S131072x1, .i32⟩ : BufTy).Contents (Elt F)) (Φ₁ (Proc.devRef .tc Cert.KernelIdeal.main_v1131)) (Φ₂ (Proc.devRef .tc Cert.ReferenceIdeal.main_v1137)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb3 (i := 1) rfl) :) e142
  have e145 : @Eq ((⟨Cert.KernelIdeal.S131072x2, .i32⟩ : BufTy).Contents (Elt F)) (Φ₁ (Proc.devRef .tc Cert.KernelIdeal.main_v1132)) (Φ₂ (Proc.devRef .tc Cert.ReferenceIdeal.main_v1138)) := by rw [eq2 (at_ fa8 (i := 70) rfl), eq2 (at_ fb3 (i := 2) rfl), e143, e144] <;> rfl
  have e146 : @Eq ((⟨Cert.KernelIdeal.S32x131072, .f32⟩ : BufTy).Contents (Elt F)) (Φ₁ (Proc.devRef .tc Cert.KernelIdeal.main_v1133)) (Φ₂ (Proc.devRef .tc Cert.ReferenceIdeal.main_v1139)) := by rw [eq2 (at_ fa8 (i := 71) rfl), eq2 (at_ fb3 (i := 3) rfl), x2, e145] <;> rfl
  have e147 : @Eq ((⟨Cert.KernelIdeal.S_, .f32⟩ : BufTy).Contents (Elt F)) (Φ₁ (Proc.devRef .tc Cert.KernelIdeal.main_cst_362)) (Φ₂ (Proc.devRef .tc Cert.ReferenceIdeal.main_cst_362)) := step0 (β := ((⟨Cert.KernelIdeal.S_, .f32⟩ : BufTy).Contents (Elt F))) (eq0 (at_ fa8 (i := 72) rfl) :) (eq0 (at_ fb3 (i := 4) rfl) :)
  have e148 : @Eq ((⟨Cert.KernelIdeal.S131072, .f32⟩ : BufTy).Contents (Elt F)) (Φ₁ (Proc.devRef .tc Cert.KernelIdeal.main_v1134)) (Φ₂ (Proc.devRef .tc Cert.ReferenceIdeal.main_v1140)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb3 (i := 5) rfl) :) e147
  have e149 : @Eq ((⟨Cert.KernelIdeal.S131072, .f32⟩ : BufTy).Contents (Elt F)) (Φ₁ (Proc.devRef .tc Cert.KernelIdeal.main_v1135)) (Φ₂ (Proc.devRef .tc Cert.ReferenceIdeal.main_v1141)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb3 (i := 6) rfl) :) e148 e33
  have e150 : @Eq ((⟨Cert.KernelIdeal.S1x131072, .f32⟩ : BufTy).Contents (Elt F)) (Φ₁ (Proc.devRef .tc Cert.KernelIdeal.main_v1136)) (Φ₂ (Proc.devRef .tc Cert.ReferenceIdeal.main_v1142)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb3 (i := 7) rfl) :) e149
  have e151 : @Eq ((⟨Cert.KernelIdeal.S32x131072, .f32⟩ : BufTy).Contents (Elt F)) (Φ₁ (Proc.devRef .tc Cert.KernelIdeal.main_v1137)) (Φ₂ (Proc.devRef .tc Cert.ReferenceIdeal.main_v1143)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb3 (i := 8) rfl) :) e150
  have e152 : @Eq ((⟨Cert.KernelIdeal.S32x131072, .f32⟩ : BufTy).Contents (Elt F)) (Φ₁ (Proc.devRef .tc Cert.KernelIdeal.main_v1138)) (Φ₂ (Proc.devRef .tc Cert.ReferenceIdeal.main_v1144)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb3 (i := 9) rfl) :) e92 e151
  have e153 : @Eq ((⟨Cert.KernelIdeal.S_, .f32⟩ : BufTy).Contents (Elt F)) (Φ₁ (Proc.devRef .tc Cert.KernelIdeal.main_cst_363)) (Φ₂ (Proc.devRef .tc Cert.ReferenceIdeal.main_cst_363)) := step0 (β := ((⟨Cert.KernelIdeal.S_, .f32⟩ : BufTy).Contents (Elt F))) (eq0 (at_ fa8 (i := 78) rfl) :) (eq0 (at_ fb3 (i := 10) rfl) :)
  have e154 : @Eq ((⟨Cert.KernelIdeal.S131072, .f32⟩ : BufTy).Contents (Elt F)) (Φ₁ (Proc.devRef .tc Cert.KernelIdeal.main_v1139)) (Φ₂ (Proc.devRef .tc Cert.ReferenceIdeal.main_v1145)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb3 (i := 11) rfl) :) e153
  have e155 : @Eq ((⟨Cert.KernelIdeal.S131072, .f32⟩ : BufTy).Contents (Elt F)) (Φ₁ (Proc.devRef .tc Cert.KernelIdeal.main_v1140)) (Φ₂ (Proc.devRef .tc Cert.ReferenceIdeal.main_v1146)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 12) rfl) :) e154 e34
  have e156 : @Eq ((⟨Cert.KernelIdeal.S1x131072, .f32⟩ : BufTy).Contents (Elt F)) (Φ₁ (Proc.devRef .tc Cert.KernelIdeal.main_v1141)) (Φ₂ (Proc.devRef .tc Cert.ReferenceIdeal.main_v1147)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 13) rfl) :) e155
  have e157 : @Eq ((⟨Cert.KernelIdeal.S32x131072, .f32⟩ : BufTy).Contents (Elt F)) (Φ₁ (Proc.devRef .tc Cert.KernelIdeal.main_v1142)) (Φ₂ (Proc.devRef .tc Cert.ReferenceIdeal.main_v1148)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 14) rfl) :) e156
  have e158 : @Eq ((⟨Cert.KernelIdeal.S32x131072, .f32⟩ : BufTy).Contents (Elt F)) (Φ₁ (Proc.devRef .tc Cert.KernelIdeal.main_v1143)) (Φ₂ (Proc.devRef .tc Cert.ReferenceIdeal.main_v1149)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 15) rfl) :) e152 e157
  have e159 : @Eq ((⟨Cert.KernelIdeal.S1x131072, .f32⟩ : BufTy).Contents (Elt F)) (Φ₁ (Proc.devRef .tc Cert.KernelIdeal.main_v1144)) (Φ₂ (Proc.devRef .tc Cert.ReferenceIdeal.main_v1150)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 16) rfl) :) e33
  have e160 : @Eq ((⟨Cert.KernelIdeal.S32x131072, .f32⟩ : BufTy).Contents (Elt F)) (Φ₁ (Proc.devRef .tc Cert.KernelIdeal.main_v1145)) (Φ₂ (Proc.devRef .tc Cert.ReferenceIdeal.main_v1151)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 17) rfl) :) e159
  have e161 : @Eq ((⟨Cert.KernelIdeal.S32x131072, .f32⟩ : BufTy).Contents (Elt F)) (Φ₁ (Proc.devRef .tc Cert.KernelIdeal.main_v1146)) (Φ₂ (Proc.devRef .tc Cert.ReferenceIdeal.main_v1152)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 18) rfl) :) e110 e160
  have e162 : @Eq ((⟨Cert.KernelIdeal.S_, .f32⟩ : BufTy).Contents (Elt F)) (Φ₁ (Proc.devRef .tc Cert.KernelIdeal.main_cst_364)) (Φ₂ (Proc.devRef .tc Cert.ReferenceIdeal.main_cst_364)) := step0 (β := ((⟨Cert.KernelIdeal.S_, .f32⟩ : BufTy).Contents (Elt F))) (eq0 (at_ fa8 (i := 87) rfl) :) (eq0 (at_ fb3 (i := 19) rfl) :)
  have e163 : @Eq ((⟨Cert.KernelIdeal.S131072, .f32⟩ : BufTy).Contents (Elt F)) (Φ₁ (Proc.devRef .tc Cert.KernelIdeal.main_v1147)) (Φ₂ (Proc.devRef .tc Cert.ReferenceIdeal.main_v1153)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 20) rfl) :) e162
  have e164 : @Eq ((⟨Cert.KernelIdeal.S131072, .f32⟩ : BufTy).Contents (Elt F)) (Φ₁ (Proc.devRef .tc Cert.KernelIdeal.main_v1148)) (Φ₂ (Proc.devRef .tc Cert.ReferenceIdeal.main_v1154)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 21) rfl) :) e163 e34
  have e165 : @Eq ((⟨Cert.KernelIdeal.S1x131072, .f32⟩ : BufTy).Contents (Elt F)) (Φ₁ (Proc.devRef .tc Cert.KernelIdeal.main_v1149)) (Φ₂ (Proc.devRef .tc Cert.ReferenceIdeal.main_v1155)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 22) rfl) :) e164
  have e166 : @Eq ((⟨Cert.KernelIdeal.S32x131072, .f32⟩ : BufTy).Contents (Elt F)) (Φ₁ (Proc.devRef .tc Cert.KernelIdeal.main_v1150)) (Φ₂ (Proc.devRef .tc Cert.ReferenceIdeal.main_v1156)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 23) rfl) :) e165
  have e167 : @Eq ((⟨Cert.KernelIdeal.S32x131072, .f32⟩ : BufTy).Contents (Elt F)) (Φ₁ (Proc.devRef .tc Cert.KernelIdeal.main_v1151)) (Φ₂ (Proc.devRef .tc Cert.ReferenceIdeal.main_v1157)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 24) rfl) :) e161 e166
  have e168 : @Eq ((⟨Cert.KernelIdeal.S32x131072, .f32⟩ : BufTy).Contents (Elt F)) (Φ₁ (Proc.devRef .tc Cert.KernelIdeal.main_v1152)) (Φ₂ (Proc.devRef .tc Cert.ReferenceIdeal.main_v1158)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 25) rfl) :) e158 e167
  have e169 : @Eq ((⟨Cert.KernelIdeal.S_, .f32⟩ : BufTy).Contents (Elt F)) (Φ₁ (Proc.devRef .tc Cert.KernelIdeal.main_cst_365)) (Φ₂ (Proc.devRef .tc Cert.ReferenceIdeal.main_cst_365)) := step0 (β := ((⟨Cert.KernelIdeal.S_, .f32⟩ : BufTy).Contents (Elt F))) (eq0 (at_ fa8 (i := 94) rfl) :) (eq0 (at_ fb3 (i := 26) rfl) :)
  have e170 : @Eq ((⟨Cert.KernelIdeal.S131072, .f32⟩ : BufTy).Contents (Elt F)) (Φ₁ (Proc.devRef .tc Cert.KernelIdeal.main_v1153)) (Φ₂ (Proc.devRef .tc Cert.ReferenceIdeal.main_v1159)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 27) rfl) :) e169
  have e171 : @Eq ((⟨Cert.KernelIdeal.S131072, .f32⟩ : BufTy).Contents (Elt F)) (Φ₁ (Proc.devRef .tc Cert.KernelIdeal.main_v1154)) (Φ₂ (Proc.devRef .tc Cert.ReferenceIdeal.main_v1160)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 28) rfl) :) e170 e33
  have e172 : @Eq ((⟨Cert.KernelIdeal.S1x131072, .f32⟩ : BufTy).Contents (Elt F)) (Φ₁ (Proc.devRef .tc Cert.KernelIdeal.main_v1155)) (Φ₂ (Proc.devRef .tc Cert.ReferenceIdeal.main_v1161)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 29) rfl) :) e171
  have e173 : @Eq ((⟨Cert.KernelIdeal.S32x131072, .f32⟩ : BufTy).Contents (Elt F)) (Φ₁ (Proc.devRef .tc Cert.KernelIdeal.main_v1156)) (Φ₂ (Proc.devRef .tc Cert.ReferenceIdeal.main_v1162)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 30) rfl) :) e172
  have e174 : @Eq ((⟨Cert.KernelIdeal.S32x131072, .f32⟩ : BufTy).Contents (Elt F)) (Φ₁ (Proc.devRef .tc Cert.KernelIdeal.main_v1157)) (Φ₂ (Proc.devRef .tc Cert.ReferenceIdeal.main_v1163)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 31) rfl) :) e128 e173
  have e175 : @Eq ((⟨Cert.KernelIdeal.S1x131072, .f32⟩ : BufTy).Contents (Elt F)) (Φ₁ (Proc.devRef .tc Cert.KernelIdeal.main_v1158)) (Φ₂ (Proc.devRef .tc Cert.ReferenceIdeal.main_v1164)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 32) rfl) :) e34
  have e176 : @Eq ((⟨Cert.KernelIdeal.S32x131072, .f32⟩ : BufTy).Contents (Elt F)) (Φ₁ (Proc.devRef .tc Cert.KernelIdeal.main_v1159)) (Φ₂ (Proc.devRef .tc Cert.ReferenceIdeal.main_v1165)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 33) rfl) :) e175
  have e177 : @Eq ((⟨Cert.KernelIdeal.S32x131072, .f32⟩ : BufTy).Contents (Elt F)) (Φ₁ (Proc.devRef .tc Cert.KernelIdeal.main_v1160)) (Φ₂ (Proc.devRef .tc Cert.ReferenceIdeal.main_v1166)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 34) rfl) :) e174 e176
  have e178 : @Eq ((⟨Cert.KernelIdeal.S32x131072, .f32⟩ : BufTy).Contents (Elt F)) (Φ₁ (Proc.devRef .tc Cert.KernelIdeal.main_v1161)) (Φ₂ (Proc.devRef .tc Cert.ReferenceIdeal.main_v1167)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 35) rfl) :) e168 e177
  have e179 : @Eq ((⟨Cert.KernelIdeal.S1x131072, .f32⟩ : BufTy).Contents (Elt F)) (Φ₁ (Proc.devRef .tc Cert.KernelIdeal.main_v1162)) (Φ₂ (Proc.devRef .tc Cert.ReferenceIdeal.main_v1168)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 36) rfl) :) e33
  have e180 : @Eq ((⟨Cert.KernelIdeal.S32x131072, .f32⟩ : BufTy).Contents (Elt F)) (Φ₁ (Proc.devRef .tc Cert.KernelIdeal.main_v1163)) (Φ₂ (Proc.devRef .tc Cert.ReferenceIdeal.main_v1169)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 37) rfl) :) e179
  have e181 : @Eq ((⟨Cert.KernelIdeal.S32x131072, .f32⟩ : BufTy).Contents (Elt F)) (Φ₁ (Proc.devRef .tc Cert.KernelIdeal.main_v1164)) (Φ₂ (Proc.devRef .tc Cert.ReferenceIdeal.main_v1170)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 38) rfl) :) e146 e180
  have e182 : @Eq ((⟨Cert.KernelIdeal.S1x131072, .f32⟩ : BufTy).Contents (Elt F)) (Φ₁ (Proc.devRef .tc Cert.KernelIdeal.main_v1165)) (Φ₂ (Proc.devRef .tc Cert.ReferenceIdeal.main_v1171)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 39) rfl) :) e34
  have e183 : @Eq ((⟨Cert.KernelIdeal.S32x131072, .f32⟩ : BufTy).Contents (Elt F)) (Φ₁ (Proc.devRef .tc Cert.KernelIdeal.main_v1166)) (Φ₂ (Proc.devRef .tc Cert.ReferenceIdeal.main_v1172)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 40) rfl) :) e182
  have e184 : @Eq ((⟨Cert.KernelIdeal.S32x131072, .f32⟩ : BufTy).Contents (Elt F)) (Φ₁ (Proc.devRef .tc Cert.KernelIdeal.main_v1167)) (Φ₂ (Proc.devRef .tc Cert.ReferenceIdeal.main_v1173)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 41) rfl) :) e181 e183
  have e185 : @Eq ((⟨Cert.KernelIdeal.S32x131072, .f32⟩ : BufTy).Contents (Elt F)) (Φ₁ (Proc.devRef .tc Cert.KernelIdeal.main_v1168)) (Φ₂ (Proc.devRef .tc Cert.ReferenceIdeal.main_v1174)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 42) rfl) :) e178 e184
  have e186 : @Eq ((⟨Cert.KernelIdeal.S131072x32, .f32⟩ : BufTy).Contents (Elt F)) (Φ₁ (Proc.devRef .tc Cert.KernelIdeal.main_v1169)) (Φ₂ (Proc.devRef .tc Cert.ReferenceIdeal.main_v1175)) := by rw [eq1 (at_ fa8 (i := 111) rfl), eq1 (at_ fb3 (i := 43) rfl), e185] <;> rfl
  exact e186

end Cert.Bridge

end
-- ==== Proof.SimB9.lean ====
/- Operations 1718 … 1904 of the one program and 1725 … 1911 of the other apply the same functions to corresponding
   buffers. If both programs' final contents satisfy their own lines' equations and agree on the buffers these operations
   read from outside, they agree on what these operations write: one congruence per operation, in program order. -/
import proofs.«133805_j10187662426200_2_alg».proof.Proof.KIStretch1
import proofs.«133805_j10187662426200_2_alg».proof.Proof.KIStretch2
import proofs.«133805_j10187662426200_2_alg».proof.Proof.RefOps3
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B9 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_72 : List (HloOp Cert.KernelIdeal.τ Cert.KernelIdeal.sig (Elt F))).Forall fun op => ∀ b ∈ op.writes, Φ₁ b = op.result Φ₁ b)
    (fa1 : (Cert.KernelIdeal.Gen.hostOps0_73 : List (HloOp Cert.KernelIdeal.τ Cert.KernelIdeal.sig (Elt F))).Forall fun op => ∀ b ∈ op.writes, Φ₁ b = op.result Φ₁ b)
    (fa2 : (Cert.KernelIdeal.Gen.hostOps0_74 : List (HloOp Cert.KernelIdeal.τ Cert.KernelIdeal.sig (Elt F))).Forall fun op => ∀ b ∈ op.writes, Φ₁ b = op.result Φ₁ b)
    (fa3 : (Cert.KernelIdeal.Gen.hostOps0_75 : List (HloOp Cert.KernelIdeal.τ Cert.KernelIdeal.sig (Elt F))).Forall fun op => ∀ b ∈ op.writes, Φ₁ b = op.result Φ₁ b)
    (fa4 : (Cert.KernelIdeal.Gen.hostOps0_76 : List (HloOp Cert.KernelIdeal.τ Cert.KernelIdeal.sig (Elt F))).Forall fun op => ∀ b ∈ op.writes, Φ₁ b = op.result Φ₁ b)
    (fa5 : (Cert.KernelIdeal.Gen.hostOps0_77 : List (HloOp Cert.KernelIdeal.τ Cert.KernelIdeal.sig (Elt F))).Forall fun op => ∀ b ∈ op.writes, Φ₁ b = op.result Φ₁ b)
    (fa6 : (Cert.KernelIdeal.Gen.hostOps0_78 : List (HloOp Cert.KernelIdeal.τ Cert.KernelIdeal.sig (Elt F))).Forall fun op => ∀ b ∈ op.writes, Φ₁ b = op.result Φ₁ b)
    (fa7 : (Cert.KernelIdeal.Gen.hostOps0_79 : List (HloOp Cert.KernelIdeal.τ Cert.KernelIdeal.sig (Elt F))).Forall fun op => ∀ b ∈ op.writes, Φ₁ b = op.result Φ₁ b)
    (fa8 : (Cert.KernelIdeal.Gen.hostOps0_80 : List (HloOp Cert.KernelIdeal.τ Cert.KernelIdeal.sig (Elt F))).Forall fun op => ∀ b ∈ op.writes, Φ₁ b = op.result Φ₁ b)
    (fb0 : (Cert.ReferenceIdeal.Ops.w25 : List (HloOp Cert.ReferenceIdeal.τ Cert.ReferenceIdeal.sig (Elt F))).Forall fun op => ∀ b ∈ op.writes, Φ₂ b = op.result Φ₂ b)
    (fb1 : (Cert.ReferenceIdeal.Ops.w26 : List (HloOp Cert.ReferenceIdeal.τ Cert.ReferenceIdeal.sig (Elt F))).Forall fun op => ∀ b ∈ op.writes, Φ₂ b = op.result Φ₂ b)
    (fb2 : (Cert.ReferenceIdeal.Ops.w27 : List (HloOp Cert.ReferenceIdeal.τ Cert.ReferenceIdeal.sig (Elt F))).Forall fun op => ∀ b ∈ op.writes, Φ₂ b = op.result Φ₂ b)
    (fb3 : (Cert.ReferenceIdeal.Ops.w28 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_8)) (Φ₂ (Proc.devRef .tc Cert.ReferenceIdeal.main_c_8)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x128x128, .f32⟩ : BufTy).Contents (Elt F)) (Φ₁ (Proc.devRef .tc Cert.KernelIdeal.main_arg11)) (Φ₂ (Proc.devRef .tc Cert.ReferenceIdeal.main_arg11)))
    : @Eq ((⟨Cert.KernelIdeal.S131072x32, .f32⟩ : BufTy).Contents (Elt F)) (Φ₁ (Proc.devRef .tc Cert.KernelIdeal.main_v1298)) (Φ₂ (Proc.devRef .tc Cert.ReferenceIdeal.main_v1305)) := by
  have e0 : @Eq ((⟨Cert.KernelIdeal.S_, .i32⟩ : BufTy).Contents (Elt F)) (Φ₁ (Proc.devRef .tc Cert.KernelIdeal.main_c_366)) (Φ₂ (Proc.devRef .tc Cert.ReferenceIdeal.main_c_366)) := step0 (β := ((⟨Cert.KernelIdeal.S_, .i32⟩ : BufTy).Contents (Elt F))) (eq0 (at_ fa0 (i := 112) rfl) :) (eq0 (at_ fb0 (i := 45) rfl) :)
  have e1 : @Eq ((⟨Cert.KernelIdeal.S2, .i32⟩ : BufTy).Contents (Elt F)) (Φ₁ (Proc.devRef .tc Cert.KernelIdeal.main_v1170)) (Φ₂ (Proc.devRef .tc Cert.ReferenceIdeal.main_v1177)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 46) rfl) :) e0
  have e2 : @Eq ((⟨Cert.KernelIdeal.S2, .i1⟩ : BufTy).Contents (Elt F)) (Φ₁ (Proc.devRef .tc Cert.KernelIdeal.main_v1171)) (Φ₂ (Proc.devRef .tc Cert.ReferenceIdeal.main_v1178)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 47) rfl) :) x0 e1
  have e3 : @Eq ((⟨Cert.KernelIdeal.S_, .i32⟩ : BufTy).Contents (Elt F)) (Φ₁ (Proc.devRef .tc Cert.KernelIdeal.main_c_367)) (Φ₂ (Proc.devRef .tc Cert.ReferenceIdeal.main_c_367)) := step0 (β := ((⟨Cert.KernelIdeal.S_, .i32⟩ : BufTy).Contents (Elt F))) (eq0 (at_ fa0 (i := 115) rfl) :) (eq0 (at_ fb0 (i := 48) rfl) :)
  have e4 : @Eq ((⟨Cert.KernelIdeal.S2, .i32⟩ : BufTy).Contents (Elt F)) (Φ₁ (Proc.devRef .tc Cert.KernelIdeal.main_v1172)) (Φ₂ (Proc.devRef .tc Cert.ReferenceIdeal.main_v1179)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 49) rfl) :) e3
  have e5 : @Eq ((⟨Cert.KernelIdeal.S2, .i32⟩ : BufTy).Contents (Elt F)) (Φ₁ (Proc.devRef .tc Cert.KernelIdeal.main_v1173)) (Φ₂ (Proc.devRef .tc Cert.ReferenceIdeal.main_v1180)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 50) rfl) :) x0 e4
  have e6 : @Eq ((⟨Cert.KernelIdeal.S2, .i32⟩ : BufTy).Contents (Elt F)) (Φ₁ (Proc.devRef .tc Cert.KernelIdeal.main_v1174)) (Φ₂ (Proc.devRef .tc Cert.ReferenceIdeal.main_v1181)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 51) rfl) :) e2 e5 x0
  have e7 : @Eq ((⟨Cert.KernelIdeal.S2x1, .i32⟩ : BufTy).Contents (Elt F)) (Φ₁ (Proc.devRef .tc Cert.KernelIdeal.main_v1175)) (Φ₂ (Proc.devRef .tc Cert.ReferenceIdeal.main_v1182)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 52) rfl) :) e6
  have e8 : @Eq ((⟨Cert.KernelIdeal.S131072x2, .f32⟩ : BufTy).Contents (Elt F)) (Φ₁ (Proc.devRef .tc Cert.KernelIdeal.main_v1176)) (Φ₂ (Proc.devRef .tc Cert.ReferenceIdeal.main_v1183)) := by rw [eq2 (at_ fa0 (i := 120) rfl), eq2 (at_ fb0 (i := 53) rfl), x1, e7] <;> rfl
  have e9 : @Eq ((⟨Cert.KernelIdeal.S131072x1, .f32⟩ : BufTy).Contents (Elt F)) (Φ₁ (Proc.devRef .tc Cert.KernelIdeal.main_v1177)) (Φ₂ (Proc.devRef .tc Cert.ReferenceIdeal.main_v1184)) := by rw [eq1 (at_ fa0 (i := 121) rfl), eq1 (at_ fb0 (i := 54) rfl), e8] <;> rfl
  have e10 : @Eq ((⟨Cert.KernelIdeal.S131072, .f32⟩ : BufTy).Contents (Elt F)) (Φ₁ (Proc.devRef .tc Cert.KernelIdeal.main_v1178)) (Φ₂ (Proc.devRef .tc Cert.ReferenceIdeal.main_v1185)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 55) rfl) :) e9
  have e11 : @Eq ((⟨Cert.KernelIdeal.S_, .f32⟩ : BufTy).Contents (Elt F)) (Φ₁ (Proc.devRef .tc Cert.KernelIdeal.main_cst_368)) (Φ₂ (Proc.devRef .tc Cert.ReferenceIdeal.main_cst_368)) := step0 (β := ((⟨Cert.KernelIdeal.S_, .f32⟩ : BufTy).Contents (Elt F))) (eq0 (at_ fa0 (i := 123) rfl) :) (eq0 (at_ fb0 (i := 56) rfl) :)
  have e12 : @Eq ((⟨Cert.KernelIdeal.S131072, .f32⟩ : BufTy).Contents (Elt F)) (Φ₁ (Proc.devRef .tc Cert.KernelIdeal.main_v1179)) (Φ₂ (Proc.devRef .tc Cert.ReferenceIdeal.main_v1186)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 57) rfl) :) e11
  have e13 : @Eq ((⟨Cert.KernelIdeal.S131072, .f32⟩ : BufTy).Contents (Elt F)) (Φ₁ (Proc.devRef .tc Cert.KernelIdeal.main_v1180)) (Φ₂ (Proc.devRef .tc Cert.ReferenceIdeal.main_v1187)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 58) rfl) :) e10 e12
  have e14 : @Eq ((⟨Cert.KernelIdeal.S_, .f32⟩ : BufTy).Contents (Elt F)) (Φ₁ (Proc.devRef .tc Cert.KernelIdeal.main_cst_369)) (Φ₂ (Proc.devRef .tc Cert.ReferenceIdeal.main_cst_369)) := step0 (β := ((⟨Cert.KernelIdeal.S_, .f32⟩ : BufTy).Contents (Elt F))) (eq0 (at_ fa0 (i := 126) rfl) :) (eq0 (at_ fb0 (i := 59) rfl) :)
  have e15 : @Eq ((⟨Cert.KernelIdeal.S131072, .f32⟩ : BufTy).Contents (Elt F)) (Φ₁ (Proc.devRef .tc Cert.KernelIdeal.main_v1181)) (Φ₂ (Proc.devRef .tc Cert.ReferenceIdeal.main_v1188)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 0) rfl) :) e14
  have e16 : @Eq ((⟨Cert.KernelIdeal.S131072, .f32⟩ : BufTy).Contents (Elt F)) (Φ₁ (Proc.devRef .tc Cert.KernelIdeal.main_v1182)) (Φ₂ (Proc.devRef .tc Cert.ReferenceIdeal.main_v1189)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 1) rfl) :) e13 e15
  have e17 : @Eq ((⟨Cert.KernelIdeal.S_, .f32⟩ : BufTy).Contents (Elt F)) (Φ₁ (Proc.devRef .tc Cert.KernelIdeal.main_cst_370)) (Φ₂ (Proc.devRef .tc Cert.ReferenceIdeal.main_cst_370)) := step0 (β := ((⟨Cert.KernelIdeal.S_, .f32⟩ : BufTy).Contents (Elt F))) (eq0 (at_ fa0 (i := 129) rfl) :) (eq0 (at_ fb1 (i := 2) rfl) :)
  have e18 : @Eq ((⟨Cert.KernelIdeal.S131072, .f32⟩ : BufTy).Contents (Elt F)) (Φ₁ (Proc.devRef .tc Cert.KernelIdeal.main_v1183)) (Φ₂ (Proc.devRef .tc Cert.ReferenceIdeal.main_v1190)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 3) rfl) :) e17
  have e19 : @Eq ((⟨Cert.KernelIdeal.S131072, .f32⟩ : BufTy).Contents (Elt F)) (Φ₁ (Proc.devRef .tc Cert.KernelIdeal.main_v1184)) (Φ₂ (Proc.devRef .tc Cert.ReferenceIdeal.main_v1191)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 4) rfl) :) e16 e18
  have e20 : @Eq ((⟨Cert.KernelIdeal.S131072x1, .f32⟩ : BufTy).Contents (Elt F)) (Φ₁ (Proc.devRef .tc Cert.KernelIdeal.main_v1185)) (Φ₂ (Proc.devRef .tc Cert.ReferenceIdeal.main_v1192)) := by rw [eq1 (at_ fa0 (i := 132) rfl), eq1 (at_ fb1 (i := 5) rfl), e8] <;> rfl
  have e21 : @Eq ((⟨Cert.KernelIdeal.S131072, .f32⟩ : BufTy).Contents (Elt F)) (Φ₁ (Proc.devRef .tc Cert.KernelIdeal.main_v1186)) (Φ₂ (Proc.devRef .tc Cert.ReferenceIdeal.main_v1193)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 6) rfl) :) e20
  have e22 : @Eq ((⟨Cert.KernelIdeal.S_, .f32⟩ : BufTy).Contents (Elt F)) (Φ₁ (Proc.devRef .tc Cert.KernelIdeal.main_cst_371)) (Φ₂ (Proc.devRef .tc Cert.ReferenceIdeal.main_cst_371)) := step0 (β := ((⟨Cert.KernelIdeal.S_, .f32⟩ : BufTy).Contents (Elt F))) (eq0 (at_ fa0 (i := 134) rfl) :) (eq0 (at_ fb1 (i := 7) rfl) :)
  have e23 : @Eq ((⟨Cert.KernelIdeal.S131072, .f32⟩ : BufTy).Contents (Elt F)) (Φ₁ (Proc.devRef .tc Cert.KernelIdeal.main_v1187)) (Φ₂ (Proc.devRef .tc Cert.ReferenceIdeal.main_v1194)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 8) rfl) :) e22
  have e24 : @Eq ((⟨Cert.KernelIdeal.S131072, .f32⟩ : BufTy).Contents (Elt F)) (Φ₁ (Proc.devRef .tc Cert.KernelIdeal.main_v1188)) (Φ₂ (Proc.devRef .tc Cert.ReferenceIdeal.main_v1195)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 9) rfl) :) e21 e23
  have e25 : @Eq ((⟨Cert.KernelIdeal.S_, .f32⟩ : BufTy).Contents (Elt F)) (Φ₁ (Proc.devRef .tc Cert.KernelIdeal.main_cst_372)) (Φ₂ (Proc.devRef .tc Cert.ReferenceIdeal.main_cst_372)) := step0 (β := ((⟨Cert.KernelIdeal.S_, .f32⟩ : BufTy).Contents (Elt F))) (eq0 (at_ fa0 (i := 137) rfl) :) (eq0 (at_ fb1 (i := 10) rfl) :)
  have e26 : @Eq ((⟨Cert.KernelIdeal.S131072, .f32⟩ : BufTy).Contents (Elt F)) (Φ₁ (Proc.devRef .tc Cert.KernelIdeal.main_v1189)) (Φ₂ (Proc.devRef .tc Cert.ReferenceIdeal.main_v1196)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 11) rfl) :) e25
  have e27 : @Eq ((⟨Cert.KernelIdeal.S131072, .f32⟩ : BufTy).Contents (Elt F)) (Φ₁ (Proc.devRef .tc Cert.KernelIdeal.main_v1190)) (Φ₂ (Proc.devRef .tc Cert.ReferenceIdeal.main_v1197)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 12) rfl) :) e24 e26
  have e28 : @Eq ((⟨Cert.KernelIdeal.S_, .f32⟩ : BufTy).Contents (Elt F)) (Φ₁ (Proc.devRef .tc Cert.KernelIdeal.main_cst_373)) (Φ₂ (Proc.devRef .tc Cert.ReferenceIdeal.main_cst_373)) := step0 (β := ((⟨Cert.KernelIdeal.S_, .f32⟩ : BufTy).Contents (Elt F))) (eq0 (at_ fa0 (i := 140) rfl) :) (eq0 (at_ fb1 (i := 13) rfl) :)
  have e29 : @Eq ((⟨Cert.KernelIdeal.S131072, .f32⟩ : BufTy).Contents (Elt F)) (Φ₁ (Proc.devRef .tc Cert.KernelIdeal.main_v1191)) (Φ₂ (Proc.devRef .tc Cert.ReferenceIdeal.main_v1198)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 14) rfl) :) e28
  have e30 : @Eq ((⟨Cert.KernelIdeal.S131072, .f32⟩ : BufTy).Contents (Elt F)) (Φ₁ (Proc.devRef .tc Cert.KernelIdeal.main_v1192)) (Φ₂ (Proc.devRef .tc Cert.ReferenceIdeal.main_v1199)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 15) rfl) :) e27 e29
  have e31 : @Eq ((⟨Cert.KernelIdeal.S131072, .f32⟩ : BufTy).Contents (Elt F)) (Φ₁ (Proc.devRef .tc Cert.KernelIdeal.main_v1193)) (Φ₂ (Proc.devRef .tc Cert.ReferenceIdeal.main_v1200)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 16) rfl) :) e19
  have e32 : @Eq ((⟨Cert.KernelIdeal.S131072, .f32⟩ : BufTy).Contents (Elt F)) (Φ₁ (Proc.devRef .tc Cert.KernelIdeal.main_v1194)) (Φ₂ (Proc.devRef .tc Cert.ReferenceIdeal.main_v1201)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 17) rfl) :) e30
  have e33 : @Eq ((⟨Cert.KernelIdeal.S131072, .f32⟩ : BufTy).Contents (Elt F)) (Φ₁ (Proc.devRef .tc Cert.KernelIdeal.main_v1195)) (Φ₂ (Proc.devRef .tc Cert.ReferenceIdeal.main_v1202)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 18) rfl) :) e19 e31
  have e34 : @Eq ((⟨Cert.KernelIdeal.S131072, .f32⟩ : BufTy).Contents (Elt F)) (Φ₁ (Proc.devRef .tc Cert.KernelIdeal.main_v1196)) (Φ₂ (Proc.devRef .tc Cert.ReferenceIdeal.main_v1203)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 19) rfl) :) e30 e32
  have e35 : @Eq ((⟨Cert.KernelIdeal.S131072, .i32⟩ : BufTy).Contents (Elt F)) (Φ₁ (Proc.devRef .tc Cert.KernelIdeal.main_v1197)) (Φ₂ (Proc.devRef .tc Cert.ReferenceIdeal.main_v1204)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 20) rfl) :) e31
  have e36 : @Eq ((⟨Cert.KernelIdeal.S_, .i32⟩ : BufTy).Contents (Elt F)) (Φ₁ (Proc.devRef .tc Cert.KernelIdeal.main_c_374)) (Φ₂ (Proc.devRef .tc Cert.ReferenceIdeal.main_c_374)) := step0 (β := ((⟨Cert.KernelIdeal.S_, .i32⟩ : BufTy).Contents (Elt F))) (eq0 (at_ fa0 (i := 148) rfl) :) (eq0 (at_ fb1 (i := 21) rfl) :)
  have e37 : @Eq ((⟨Cert.KernelIdeal.S_, .i32⟩ : BufTy).Contents (Elt F)) (Φ₁ (Proc.devRef .tc Cert.KernelIdeal.main_c_375)) (Φ₂ (Proc.devRef .tc Cert.ReferenceIdeal.main_c_375)) := step0 (β := ((⟨Cert.KernelIdeal.S_, .i32⟩ : BufTy).Contents (Elt F))) (eq0 (at_ fa0 (i := 149) rfl) :) (eq0 (at_ fb1 (i := 22) rfl) :)
  have e38 : @Eq ((⟨Cert.KernelIdeal.S_, .i32⟩ : BufTy).Contents (Elt F)) (Φ₁ (Proc.devRef .tc Cert.KernelIdeal.main_call36_v0)) (Φ₂ (Proc.devRef .tc Cert.ReferenceIdeal.main_call36_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 23) rfl) :) e36
  have e39 : @Eq ((⟨Cert.KernelIdeal.S131072, .i32⟩ : BufTy).Contents (Elt F)) (Φ₁ (Proc.devRef .tc Cert.KernelIdeal.main_call36_v1)) (Φ₂ (Proc.devRef .tc Cert.ReferenceIdeal.main_call36_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 24) rfl) :) e38
  have e40 : @Eq ((⟨Cert.KernelIdeal.S131072, .i32⟩ : BufTy).Contents (Elt F)) (Φ₁ (Proc.devRef .tc Cert.KernelIdeal.main_call36_v2)) (Φ₂ (Proc.devRef .tc Cert.ReferenceIdeal.main_call36_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 25) rfl) :) e39 e35
  have e41 : @Eq ((⟨Cert.KernelIdeal.S_, .i32⟩ : BufTy).Contents (Elt F)) (Φ₁ (Proc.devRef .tc Cert.KernelIdeal.main_call36_v3)) (Φ₂ (Proc.devRef .tc Cert.ReferenceIdeal.main_call36_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 26) rfl) :) e37
  have e42 : @Eq ((⟨Cert.KernelIdeal.S131072, .i32⟩ : BufTy).Contents (Elt F)) (Φ₁ (Proc.devRef .tc Cert.KernelIdeal.main_call36_v4)) (Φ₂ (Proc.devRef .tc Cert.ReferenceIdeal.main_call36_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 27) rfl) :) e41
  have e43 : @Eq ((⟨Cert.KernelIdeal.S131072, .i32⟩ : BufTy).Contents (Elt F)) (Φ₁ (Proc.devRef .tc Cert.KernelIdeal.main_v1198)) (Φ₂ (Proc.devRef .tc Cert.ReferenceIdeal.main_v1205)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 28) rfl) :) e42 e40
  have e44 : @Eq ((⟨Cert.KernelIdeal.S_, .i32⟩ : BufTy).Contents (Elt F)) (Φ₁ (Proc.devRef .tc Cert.KernelIdeal.main_c_376)) (Φ₂ (Proc.devRef .tc Cert.ReferenceIdeal.main_c_376)) := step0 (β := ((⟨Cert.KernelIdeal.S_, .i32⟩ : BufTy).Contents (Elt F))) (eq0 (at_ fa2 (i := 0) rfl) :) (eq0 (at_ fb1 (i := 29) rfl) :)
  have e45 : @Eq ((⟨Cert.KernelIdeal.S131072, .i32⟩ : BufTy).Contents (Elt F)) (Φ₁ (Proc.devRef .tc Cert.KernelIdeal.main_v1199)) (Φ₂ (Proc.devRef .tc Cert.ReferenceIdeal.main_v1206)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 30) rfl) :) e44
  have e46 : @Eq ((⟨Cert.KernelIdeal.S131072, .i32⟩ : BufTy).Contents (Elt F)) (Φ₁ (Proc.devRef .tc Cert.KernelIdeal.main_v1200)) (Φ₂ (Proc.devRef .tc Cert.ReferenceIdeal.main_v1207)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 31) rfl) :) e43 e45
  have e47 : @Eq ((⟨Cert.KernelIdeal.S_, .i32⟩ : BufTy).Contents (Elt F)) (Φ₁ (Proc.devRef .tc Cert.KernelIdeal.main_c_377)) (Φ₂ (Proc.devRef .tc Cert.ReferenceIdeal.main_c_377)) := step0 (β := ((⟨Cert.KernelIdeal.S_, .i32⟩ : BufTy).Contents (Elt F))) (eq0 (at_ fa2 (i := 3) rfl) :) (eq0 (at_ fb1 (i := 32) rfl) :)
  have e48 : @Eq ((⟨Cert.KernelIdeal.S_, .i32⟩ : BufTy).Contents (Elt F)) (Φ₁ (Proc.devRef .tc Cert.KernelIdeal.main_c_378)) (Φ₂ (Proc.devRef .tc Cert.ReferenceIdeal.main_c_378)) := step0 (β := ((⟨Cert.KernelIdeal.S_, .i32⟩ : BufTy).Contents (Elt F))) (eq0 (at_ fa2 (i := 4) rfl) :) (eq0 (at_ fb1 (i := 33) rfl) :)
  have e49 : @Eq ((⟨Cert.KernelIdeal.S_, .i32⟩ : BufTy).Contents (Elt F)) (Φ₁ (Proc.devRef .tc Cert.KernelIdeal.main_call37_v0)) (Φ₂ (Proc.devRef .tc Cert.ReferenceIdeal.main_call37_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 34) rfl) :) e47
  have e50 : @Eq ((⟨Cert.KernelIdeal.S131072, .i32⟩ : BufTy).Contents (Elt F)) (Φ₁ (Proc.devRef .tc Cert.KernelIdeal.main_call37_v1)) (Φ₂ (Proc.devRef .tc Cert.ReferenceIdeal.main_call37_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 35) rfl) :) e49
  have e51 : @Eq ((⟨Cert.KernelIdeal.S131072, .i32⟩ : BufTy).Contents (Elt F)) (Φ₁ (Proc.devRef .tc Cert.KernelIdeal.main_call37_v2)) (Φ₂ (Proc.devRef .tc Cert.ReferenceIdeal.main_call37_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 36) rfl) :) e50 e46
  have e52 : @Eq ((⟨Cert.KernelIdeal.S_, .i32⟩ : BufTy).Contents (Elt F)) (Φ₁ (Proc.devRef .tc Cert.KernelIdeal.main_call37_v3)) (Φ₂ (Proc.devRef .tc Cert.ReferenceIdeal.main_call37_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 37) rfl) :) e48
  have e53 : @Eq ((⟨Cert.KernelIdeal.S131072, .i32⟩ : BufTy).Contents (Elt F)) (Φ₁ (Proc.devRef .tc Cert.KernelIdeal.main_call37_v4)) (Φ₂ (Proc.devRef .tc Cert.ReferenceIdeal.main_call37_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 38) rfl) :) e52
  have e54 : @Eq ((⟨Cert.KernelIdeal.S131072, .i32⟩ : BufTy).Contents (Elt F)) (Φ₁ (Proc.devRef .tc Cert.KernelIdeal.main_v1201)) (Φ₂ (Proc.devRef .tc Cert.ReferenceIdeal.main_v1208)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 39) rfl) :) e53 e51
  have e55 : @Eq ((⟨Cert.KernelIdeal.S131072, .i32⟩ : BufTy).Contents (Elt F)) (Φ₁ (Proc.devRef .tc Cert.KernelIdeal.main_v1202)) (Φ₂ (Proc.devRef .tc Cert.ReferenceIdeal.main_v1209)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 40) rfl) :) e32
  have e56 : @Eq ((⟨Cert.KernelIdeal.S_, .i32⟩ : BufTy).Contents (Elt F)) (Φ₁ (Proc.devRef .tc Cert.KernelIdeal.main_c_379)) (Φ₂ (Proc.devRef .tc Cert.ReferenceIdeal.main_c_379)) := step0 (β := ((⟨Cert.KernelIdeal.S_, .i32⟩ : BufTy).Contents (Elt F))) (eq0 (at_ fa4 (i := 1) rfl) :) (eq0 (at_ fb1 (i := 41) rfl) :)
  have e57 : @Eq ((⟨Cert.KernelIdeal.S_, .i32⟩ : BufTy).Contents (Elt F)) (Φ₁ (Proc.devRef .tc Cert.KernelIdeal.main_c_380)) (Φ₂ (Proc.devRef .tc Cert.ReferenceIdeal.main_c_380)) := step0 (β := ((⟨Cert.KernelIdeal.S_, .i32⟩ : BufTy).Contents (Elt F))) (eq0 (at_ fa4 (i := 2) rfl) :) (eq0 (at_ fb1 (i := 42) rfl) :)
  have e58 : @Eq ((⟨Cert.KernelIdeal.S_, .i32⟩ : BufTy).Contents (Elt F)) (Φ₁ (Proc.devRef .tc Cert.KernelIdeal.main_call38_v0)) (Φ₂ (Proc.devRef .tc Cert.ReferenceIdeal.main_call38_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 43) rfl) :) e56
  have e59 : @Eq ((⟨Cert.KernelIdeal.S131072, .i32⟩ : BufTy).Contents (Elt F)) (Φ₁ (Proc.devRef .tc Cert.KernelIdeal.main_call38_v1)) (Φ₂ (Proc.devRef .tc Cert.ReferenceIdeal.main_call38_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 44) rfl) :) e58
  have e60 : @Eq ((⟨Cert.KernelIdeal.S131072, .i32⟩ : BufTy).Contents (Elt F)) (Φ₁ (Proc.devRef .tc Cert.KernelIdeal.main_call38_v2)) (Φ₂ (Proc.devRef .tc Cert.ReferenceIdeal.main_call38_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 45) rfl) :) e59 e55
  have e61 : @Eq ((⟨Cert.KernelIdeal.S_, .i32⟩ : BufTy).Contents (Elt F)) (Φ₁ (Proc.devRef .tc Cert.KernelIdeal.main_call38_v3)) (Φ₂ (Proc.devRef .tc Cert.ReferenceIdeal.main_call38_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 46) rfl) :) e57
  have e62 : @Eq ((⟨Cert.KernelIdeal.S131072, .i32⟩ : BufTy).Contents (Elt F)) (Φ₁ (Proc.devRef .tc Cert.KernelIdeal.main_call38_v4)) (Φ₂ (Proc.devRef .tc Cert.ReferenceIdeal.main_call38_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 47) rfl) :) e61
  have e63 : @Eq ((⟨Cert.KernelIdeal.S131072, .i32⟩ : BufTy).Contents (Elt F)) (Φ₁ (Proc.devRef .tc Cert.KernelIdeal.main_v1203)) (Φ₂ (Proc.devRef .tc Cert.ReferenceIdeal.main_v1210)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 48) rfl) :) e62 e60
  have e64 : @Eq ((⟨Cert.KernelIdeal.S_, .i32⟩ : BufTy).Contents (Elt F)) (Φ₁ (Proc.devRef .tc Cert.KernelIdeal.main_c_381)) (Φ₂ (Proc.devRef .tc Cert.ReferenceIdeal.main_c_381)) := step0 (β := ((⟨Cert.KernelIdeal.S_, .i32⟩ : BufTy).Contents (Elt F))) (eq0 (at_ fa6 (i := 0) rfl) :) (eq0 (at_ fb1 (i := 49) rfl) :)
  have e65 : @Eq ((⟨Cert.KernelIdeal.S131072, .i32⟩ : BufTy).Contents (Elt F)) (Φ₁ (Proc.devRef .tc Cert.KernelIdeal.main_v1204)) (Φ₂ (Proc.devRef .tc Cert.ReferenceIdeal.main_v1211)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 50) rfl) :) e64
  have e66 : @Eq ((⟨Cert.KernelIdeal.S131072, .i32⟩ : BufTy).Contents (Elt F)) (Φ₁ (Proc.devRef .tc Cert.KernelIdeal.main_v1205)) (Φ₂ (Proc.devRef .tc Cert.ReferenceIdeal.main_v1212)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 51) rfl) :) e63 e65
  have e67 : @Eq ((⟨Cert.KernelIdeal.S_, .i32⟩ : BufTy).Contents (Elt F)) (Φ₁ (Proc.devRef .tc Cert.KernelIdeal.main_c_382)) (Φ₂ (Proc.devRef .tc Cert.ReferenceIdeal.main_c_382)) := step0 (β := ((⟨Cert.KernelIdeal.S_, .i32⟩ : BufTy).Contents (Elt F))) (eq0 (at_ fa6 (i := 3) rfl) :) (eq0 (at_ fb1 (i := 52) rfl) :)
  have e68 : @Eq ((⟨Cert.KernelIdeal.S_, .i32⟩ : BufTy).Contents (Elt F)) (Φ₁ (Proc.devRef .tc Cert.KernelIdeal.main_c_383)) (Φ₂ (Proc.devRef .tc Cert.ReferenceIdeal.main_c_383)) := step0 (β := ((⟨Cert.KernelIdeal.S_, .i32⟩ : BufTy).Contents (Elt F))) (eq0 (at_ fa6 (i := 4) rfl) :) (eq0 (at_ fb1 (i := 53) rfl) :)
  have e69 : @Eq ((⟨Cert.KernelIdeal.S_, .i32⟩ : BufTy).Contents (Elt F)) (Φ₁ (Proc.devRef .tc Cert.KernelIdeal.main_call39_v0)) (Φ₂ (Proc.devRef .tc Cert.ReferenceIdeal.main_call39_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 54) rfl) :) e67
  have e70 : @Eq ((⟨Cert.KernelIdeal.S131072, .i32⟩ : BufTy).Contents (Elt F)) (Φ₁ (Proc.devRef .tc Cert.KernelIdeal.main_call39_v1)) (Φ₂ (Proc.devRef .tc Cert.ReferenceIdeal.main_call39_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 55) rfl) :) e69
  have e71 : @Eq ((⟨Cert.KernelIdeal.S131072, .i32⟩ : BufTy).Contents (Elt F)) (Φ₁ (Proc.devRef .tc Cert.KernelIdeal.main_call39_v2)) (Φ₂ (Proc.devRef .tc Cert.ReferenceIdeal.main_call39_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 56) rfl) :) e70 e66
  have e72 : @Eq ((⟨Cert.KernelIdeal.S_, .i32⟩ : BufTy).Contents (Elt F)) (Φ₁ (Proc.devRef .tc Cert.KernelIdeal.main_call39_v3)) (Φ₂ (Proc.devRef .tc Cert.ReferenceIdeal.main_call39_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 57) rfl) :) e68
  have e73 : @Eq ((⟨Cert.KernelIdeal.S131072, .i32⟩ : BufTy).Contents (Elt F)) (Φ₁ (Proc.devRef .tc Cert.KernelIdeal.main_call39_v4)) (Φ₂ (Proc.devRef .tc Cert.ReferenceIdeal.main_call39_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 58) rfl) :) e72
  have e74 : @Eq ((⟨Cert.KernelIdeal.S131072, .i32⟩ : BufTy).Contents (Elt F)) (Φ₁ (Proc.devRef .tc Cert.KernelIdeal.main_v1206)) (Φ₂ (Proc.devRef .tc Cert.ReferenceIdeal.main_v1213)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 59) rfl) :) e73 e71
  have e75 : @Eq ((⟨Cert.KernelIdeal.S_, .i32⟩ : BufTy).Contents (Elt F)) (Φ₁ (Proc.devRef .tc Cert.KernelIdeal.main_c_384)) (Φ₂ (Proc.devRef .tc Cert.ReferenceIdeal.main_c_384)) := step0 (β := ((⟨Cert.KernelIdeal.S_, .i32⟩ : BufTy).Contents (Elt F))) (eq0 (at_ fa8 (i := 0) rfl) :) (eq0 (at_ fb1 (i := 60) rfl) :)
  have e76 : @Eq ((⟨Cert.KernelIdeal.S131072, .i32⟩ : BufTy).Contents (Elt F)) (Φ₁ (Proc.devRef .tc Cert.KernelIdeal.main_v1207)) (Φ₂ (Proc.devRef .tc Cert.ReferenceIdeal.main_v1214)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 61) rfl) :) e75
  have e77 : @Eq ((⟨Cert.KernelIdeal.S131072, .i1⟩ : BufTy).Contents (Elt F)) (Φ₁ (Proc.devRef .tc Cert.KernelIdeal.main_v1208)) (Φ₂ (Proc.devRef .tc Cert.ReferenceIdeal.main_v1215)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 62) rfl) :) e63 e76
  have e78 : @Eq ((⟨Cert.KernelIdeal.S_, .i32⟩ : BufTy).Contents (Elt F)) (Φ₁ (Proc.devRef .tc Cert.KernelIdeal.main_c_385)) (Φ₂ (Proc.devRef .tc Cert.ReferenceIdeal.main_c_385)) := step0 (β := ((⟨Cert.KernelIdeal.S_, .i32⟩ : BufTy).Contents (Elt F))) (eq0 (at_ fa8 (i := 3) rfl) :) (eq0 (at_ fb1 (i := 63) rfl) :)
  have e79 : @Eq ((⟨Cert.KernelIdeal.S131072, .i32⟩ : BufTy).Contents (Elt F)) (Φ₁ (Proc.devRef .tc Cert.KernelIdeal.main_v1209)) (Φ₂ (Proc.devRef .tc Cert.ReferenceIdeal.main_v1216)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 64) rfl) :) e78
  have e80 : @Eq ((⟨Cert.KernelIdeal.S131072, .i32⟩ : BufTy).Contents (Elt F)) (Φ₁ (Proc.devRef .tc Cert.KernelIdeal.main_v1210)) (Φ₂ (Proc.devRef .tc Cert.ReferenceIdeal.main_v1217)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 65) rfl) :) e63 e79
  have e81 : @Eq ((⟨Cert.KernelIdeal.S131072, .i32⟩ : BufTy).Contents (Elt F)) (Φ₁ (Proc.devRef .tc Cert.KernelIdeal.main_v1211)) (Φ₂ (Proc.devRef .tc Cert.ReferenceIdeal.main_v1218)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 66) rfl) :) e77 e80 e63
  have e82 : @Eq ((⟨Cert.KernelIdeal.S_, .i32⟩ : BufTy).Contents (Elt F)) (Φ₁ (Proc.devRef .tc Cert.KernelIdeal.main_c_386)) (Φ₂ (Proc.devRef .tc Cert.ReferenceIdeal.main_c_386)) := step0 (β := ((⟨Cert.KernelIdeal.S_, .i32⟩ : BufTy).Contents (Elt F))) (eq0 (at_ fa8 (i := 7) rfl) :) (eq0 (at_ fb1 (i := 67) rfl) :)
  have e83 : @Eq ((⟨Cert.KernelIdeal.S131072, .i32⟩ : BufTy).Contents (Elt F)) (Φ₁ (Proc.devRef .tc Cert.KernelIdeal.main_v1212)) (Φ₂ (Proc.devRef .tc Cert.ReferenceIdeal.main_v1219)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 68) rfl) :) e82
  have e84 : @Eq ((⟨Cert.KernelIdeal.S131072, .i1⟩ : BufTy).Contents (Elt F)) (Φ₁ (Proc.devRef .tc Cert.KernelIdeal.main_v1213)) (Φ₂ (Proc.devRef .tc Cert.ReferenceIdeal.main_v1220)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 69) rfl) :) e43 e83
  have e85 : @Eq ((⟨Cert.KernelIdeal.S_, .i32⟩ : BufTy).Contents (Elt F)) (Φ₁ (Proc.devRef .tc Cert.KernelIdeal.main_c_387)) (Φ₂ (Proc.devRef .tc Cert.ReferenceIdeal.main_c_387)) := step0 (β := ((⟨Cert.KernelIdeal.S_, .i32⟩ : BufTy).Contents (Elt F))) (eq0 (at_ fa8 (i := 10) rfl) :) (eq0 (at_ fb1 (i := 70) rfl) :)
  have e86 : @Eq ((⟨Cert.KernelIdeal.S131072, .i32⟩ : BufTy).Contents (Elt F)) (Φ₁ (Proc.devRef .tc Cert.KernelIdeal.main_v1214)) (Φ₂ (Proc.devRef .tc Cert.ReferenceIdeal.main_v1221)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 71) rfl) :) e85
  have e87 : @Eq ((⟨Cert.KernelIdeal.S131072, .i32⟩ : BufTy).Contents (Elt F)) (Φ₁ (Proc.devRef .tc Cert.KernelIdeal.main_v1215)) (Φ₂ (Proc.devRef .tc Cert.ReferenceIdeal.main_v1222)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 72) rfl) :) e43 e86
  have e88 : @Eq ((⟨Cert.KernelIdeal.S131072, .i32⟩ : BufTy).Contents (Elt F)) (Φ₁ (Proc.devRef .tc Cert.KernelIdeal.main_v1216)) (Φ₂ (Proc.devRef .tc Cert.ReferenceIdeal.main_v1223)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 73) rfl) :) e84 e87 e43
  have e89 : @Eq ((⟨Cert.KernelIdeal.S131072x1, .i32⟩ : BufTy).Contents (Elt F)) (Φ₁ (Proc.devRef .tc Cert.KernelIdeal.main_v1217)) (Φ₂ (Proc.devRef .tc Cert.ReferenceIdeal.main_v1224)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 74) rfl) :) e81
  have e90 : @Eq ((⟨Cert.KernelIdeal.S131072x1, .i32⟩ : BufTy).Contents (Elt F)) (Φ₁ (Proc.devRef .tc Cert.KernelIdeal.main_v1218)) (Φ₂ (Proc.devRef .tc Cert.ReferenceIdeal.main_v1225)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 75) rfl) :) e88
  have e91 : @Eq ((⟨Cert.KernelIdeal.S131072x2, .i32⟩ : BufTy).Contents (Elt F)) (Φ₁ (Proc.devRef .tc Cert.KernelIdeal.main_v1219)) (Φ₂ (Proc.devRef .tc Cert.ReferenceIdeal.main_v1226)) := by rw [eq2 (at_ fa8 (i := 16) rfl), eq2 (at_ fb1 (i := 76) rfl), e89, e90] <;> rfl
  have e92 : @Eq ((⟨Cert.KernelIdeal.S32x131072, .f32⟩ : BufTy).Contents (Elt F)) (Φ₁ (Proc.devRef .tc Cert.KernelIdeal.main_v1220)) (Φ₂ (Proc.devRef .tc Cert.ReferenceIdeal.main_v1227)) := by rw [eq2 (at_ fa8 (i := 17) rfl), eq2 (at_ fb1 (i := 77) rfl), x2, e91] <;> rfl
  have e93 : @Eq ((⟨Cert.KernelIdeal.S_, .i32⟩ : BufTy).Contents (Elt F)) (Φ₁ (Proc.devRef .tc Cert.KernelIdeal.main_c_388)) (Φ₂ (Proc.devRef .tc Cert.ReferenceIdeal.main_c_388)) := step0 (β := ((⟨Cert.KernelIdeal.S_, .i32⟩ : BufTy).Contents (Elt F))) (eq0 (at_ fa8 (i := 18) rfl) :) (eq0 (at_ fb1 (i := 78) rfl) :)
  have e94 : @Eq ((⟨Cert.KernelIdeal.S131072, .i32⟩ : BufTy).Contents (Elt F)) (Φ₁ (Proc.devRef .tc Cert.KernelIdeal.main_v1221)) (Φ₂ (Proc.devRef .tc Cert.ReferenceIdeal.main_v1228)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 79) rfl) :) e93
  have e95 : @Eq ((⟨Cert.KernelIdeal.S131072, .i1⟩ : BufTy).Contents (Elt F)) (Φ₁ (Proc.devRef .tc Cert.KernelIdeal.main_v1222)) (Φ₂ (Proc.devRef .tc Cert.ReferenceIdeal.main_v1229)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 0) rfl) :) e63 e94
  have e96 : @Eq ((⟨Cert.KernelIdeal.S_, .i32⟩ : BufTy).Contents (Elt F)) (Φ₁ (Proc.devRef .tc Cert.KernelIdeal.main_c_389)) (Φ₂ (Proc.devRef .tc Cert.ReferenceIdeal.main_c_389)) := step0 (β := ((⟨Cert.KernelIdeal.S_, .i32⟩ : BufTy).Contents (Elt F))) (eq0 (at_ fa8 (i := 21) rfl) :) (eq0 (at_ fb2 (i := 1) rfl) :)
  have e97 : @Eq ((⟨Cert.KernelIdeal.S131072, .i32⟩ : BufTy).Contents (Elt F)) (Φ₁ (Proc.devRef .tc Cert.KernelIdeal.main_v1223)) (Φ₂ (Proc.devRef .tc Cert.ReferenceIdeal.main_v1230)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 2) rfl) :) e96
  have e98 : @Eq ((⟨Cert.KernelIdeal.S131072, .i32⟩ : BufTy).Contents (Elt F)) (Φ₁ (Proc.devRef .tc Cert.KernelIdeal.main_v1224)) (Φ₂ (Proc.devRef .tc Cert.ReferenceIdeal.main_v1231)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 3) rfl) :) e63 e97
  have e99 : @Eq ((⟨Cert.KernelIdeal.S131072, .i32⟩ : BufTy).Contents (Elt F)) (Φ₁ (Proc.devRef .tc Cert.KernelIdeal.main_v1225)) (Φ₂ (Proc.devRef .tc Cert.ReferenceIdeal.main_v1232)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 4) rfl) :) e95 e98 e63
  have e100 : @Eq ((⟨Cert.KernelIdeal.S_, .i32⟩ : BufTy).Contents (Elt F)) (Φ₁ (Proc.devRef .tc Cert.KernelIdeal.main_c_390)) (Φ₂ (Proc.devRef .tc Cert.ReferenceIdeal.main_c_390)) := step0 (β := ((⟨Cert.KernelIdeal.S_, .i32⟩ : BufTy).Contents (Elt F))) (eq0 (at_ fa8 (i := 25) rfl) :) (eq0 (at_ fb2 (i := 5) rfl) :)
  have e101 : @Eq ((⟨Cert.KernelIdeal.S131072, .i32⟩ : BufTy).Contents (Elt F)) (Φ₁ (Proc.devRef .tc Cert.KernelIdeal.main_v1226)) (Φ₂ (Proc.devRef .tc Cert.ReferenceIdeal.main_v1233)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 6) rfl) :) e100
  have e102 : @Eq ((⟨Cert.KernelIdeal.S131072, .i1⟩ : BufTy).Contents (Elt F)) (Φ₁ (Proc.devRef .tc Cert.KernelIdeal.main_v1227)) (Φ₂ (Proc.devRef .tc Cert.ReferenceIdeal.main_v1234)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 7) rfl) :) e54 e101
  have e103 : @Eq ((⟨Cert.KernelIdeal.S_, .i32⟩ : BufTy).Contents (Elt F)) (Φ₁ (Proc.devRef .tc Cert.KernelIdeal.main_c_391)) (Φ₂ (Proc.devRef .tc Cert.ReferenceIdeal.main_c_391)) := step0 (β := ((⟨Cert.KernelIdeal.S_, .i32⟩ : BufTy).Contents (Elt F))) (eq0 (at_ fa8 (i := 28) rfl) :) (eq0 (at_ fb2 (i := 8) rfl) :)
  have e104 : @Eq ((⟨Cert.KernelIdeal.S131072, .i32⟩ : BufTy).Contents (Elt F)) (Φ₁ (Proc.devRef .tc Cert.KernelIdeal.main_v1228)) (Φ₂ (Proc.devRef .tc Cert.ReferenceIdeal.main_v1235)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 9) rfl) :) e103
  have e105 : @Eq ((⟨Cert.KernelIdeal.S131072, .i32⟩ : BufTy).Contents (Elt F)) (Φ₁ (Proc.devRef .tc Cert.KernelIdeal.main_v1229)) (Φ₂ (Proc.devRef .tc Cert.ReferenceIdeal.main_v1236)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 10) rfl) :) e54 e104
  have e106 : @Eq ((⟨Cert.KernelIdeal.S131072, .i32⟩ : BufTy).Contents (Elt F)) (Φ₁ (Proc.devRef .tc Cert.KernelIdeal.main_v1230)) (Φ₂ (Proc.devRef .tc Cert.ReferenceIdeal.main_v1237)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 11) rfl) :) e102 e105 e54
  have e107 : @Eq ((⟨Cert.KernelIdeal.S131072x1, .i32⟩ : BufTy).Contents (Elt F)) (Φ₁ (Proc.devRef .tc Cert.KernelIdeal.main_v1231)) (Φ₂ (Proc.devRef .tc Cert.ReferenceIdeal.main_v1238)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 12) rfl) :) e99
  have e108 : @Eq ((⟨Cert.KernelIdeal.S131072x1, .i32⟩ : BufTy).Contents (Elt F)) (Φ₁ (Proc.devRef .tc Cert.KernelIdeal.main_v1232)) (Φ₂ (Proc.devRef .tc Cert.ReferenceIdeal.main_v1239)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 13) rfl) :) e106
  have e109 : @Eq ((⟨Cert.KernelIdeal.S131072x2, .i32⟩ : BufTy).Contents (Elt F)) (Φ₁ (Proc.devRef .tc Cert.KernelIdeal.main_v1233)) (Φ₂ (Proc.devRef .tc Cert.ReferenceIdeal.main_v1240)) := by rw [eq2 (at_ fa8 (i := 34) rfl), eq2 (at_ fb2 (i := 14) rfl), e107, e108] <;> rfl
  have e110 : @Eq ((⟨Cert.KernelIdeal.S32x131072, .f32⟩ : BufTy).Contents (Elt F)) (Φ₁ (Proc.devRef .tc Cert.KernelIdeal.main_v1234)) (Φ₂ (Proc.devRef .tc Cert.ReferenceIdeal.main_v1241)) := by rw [eq2 (at_ fa8 (i := 35) rfl), eq2 (at_ fb2 (i := 15) rfl), x2, e109] <;> rfl
  have e111 : @Eq ((⟨Cert.KernelIdeal.S_, .i32⟩ : BufTy).Contents (Elt F)) (Φ₁ (Proc.devRef .tc Cert.KernelIdeal.main_c_392)) (Φ₂ (Proc.devRef .tc Cert.ReferenceIdeal.main_c_392)) := step0 (β := ((⟨Cert.KernelIdeal.S_, .i32⟩ : BufTy).Contents (Elt F))) (eq0 (at_ fa8 (i := 36) rfl) :) (eq0 (at_ fb2 (i := 16) rfl) :)
  have e112 : @Eq ((⟨Cert.KernelIdeal.S131072, .i32⟩ : BufTy).Contents (Elt F)) (Φ₁ (Proc.devRef .tc Cert.KernelIdeal.main_v1235)) (Φ₂ (Proc.devRef .tc Cert.ReferenceIdeal.main_v1242)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 17) rfl) :) e111
  have e113 : @Eq ((⟨Cert.KernelIdeal.S131072, .i1⟩ : BufTy).Contents (Elt F)) (Φ₁ (Proc.devRef .tc Cert.KernelIdeal.main_v1236)) (Φ₂ (Proc.devRef .tc Cert.ReferenceIdeal.main_v1243)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 18) rfl) :) e74 e112
  have e114 : @Eq ((⟨Cert.KernelIdeal.S_, .i32⟩ : BufTy).Contents (Elt F)) (Φ₁ (Proc.devRef .tc Cert.KernelIdeal.main_c_393)) (Φ₂ (Proc.devRef .tc Cert.ReferenceIdeal.main_c_393)) := step0 (β := ((⟨Cert.KernelIdeal.S_, .i32⟩ : BufTy).Contents (Elt F))) (eq0 (at_ fa8 (i := 39) rfl) :) (eq0 (at_ fb2 (i := 19) rfl) :)
  have e115 : @Eq ((⟨Cert.KernelIdeal.S131072, .i32⟩ : BufTy).Contents (Elt F)) (Φ₁ (Proc.devRef .tc Cert.KernelIdeal.main_v1237)) (Φ₂ (Proc.devRef .tc Cert.ReferenceIdeal.main_v1244)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 20) rfl) :) e114
  have e116 : @Eq ((⟨Cert.KernelIdeal.S131072, .i32⟩ : BufTy).Contents (Elt F)) (Φ₁ (Proc.devRef .tc Cert.KernelIdeal.main_v1238)) (Φ₂ (Proc.devRef .tc Cert.ReferenceIdeal.main_v1245)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 21) rfl) :) e74 e115
  have e117 : @Eq ((⟨Cert.KernelIdeal.S131072, .i32⟩ : BufTy).Contents (Elt F)) (Φ₁ (Proc.devRef .tc Cert.KernelIdeal.main_v1239)) (Φ₂ (Proc.devRef .tc Cert.ReferenceIdeal.main_v1246)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 22) rfl) :) e113 e116 e74
  have e118 : @Eq ((⟨Cert.KernelIdeal.S_, .i32⟩ : BufTy).Contents (Elt F)) (Φ₁ (Proc.devRef .tc Cert.KernelIdeal.main_c_394)) (Φ₂ (Proc.devRef .tc Cert.ReferenceIdeal.main_c_394)) := step0 (β := ((⟨Cert.KernelIdeal.S_, .i32⟩ : BufTy).Contents (Elt F))) (eq0 (at_ fa8 (i := 43) rfl) :) (eq0 (at_ fb2 (i := 23) rfl) :)
  have e119 : @Eq ((⟨Cert.KernelIdeal.S131072, .i32⟩ : BufTy).Contents (Elt F)) (Φ₁ (Proc.devRef .tc Cert.KernelIdeal.main_v1240)) (Φ₂ (Proc.devRef .tc Cert.ReferenceIdeal.main_v1247)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 24) rfl) :) e118
  have e120 : @Eq ((⟨Cert.KernelIdeal.S131072, .i1⟩ : BufTy).Contents (Elt F)) (Φ₁ (Proc.devRef .tc Cert.KernelIdeal.main_v1241)) (Φ₂ (Proc.devRef .tc Cert.ReferenceIdeal.main_v1248)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 25) rfl) :) e43 e119
  have e121 : @Eq ((⟨Cert.KernelIdeal.S_, .i32⟩ : BufTy).Contents (Elt F)) (Φ₁ (Proc.devRef .tc Cert.KernelIdeal.main_c_395)) (Φ₂ (Proc.devRef .tc Cert.ReferenceIdeal.main_c_395)) := step0 (β := ((⟨Cert.KernelIdeal.S_, .i32⟩ : BufTy).Contents (Elt F))) (eq0 (at_ fa8 (i := 46) rfl) :) (eq0 (at_ fb2 (i := 26) rfl) :)
  have e122 : @Eq ((⟨Cert.KernelIdeal.S131072, .i32⟩ : BufTy).Contents (Elt F)) (Φ₁ (Proc.devRef .tc Cert.KernelIdeal.main_v1242)) (Φ₂ (Proc.devRef .tc Cert.ReferenceIdeal.main_v1249)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 27) rfl) :) e121
  have e123 : @Eq ((⟨Cert.KernelIdeal.S131072, .i32⟩ : BufTy).Contents (Elt F)) (Φ₁ (Proc.devRef .tc Cert.KernelIdeal.main_v1243)) (Φ₂ (Proc.devRef .tc Cert.ReferenceIdeal.main_v1250)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 28) rfl) :) e43 e122
  have e124 : @Eq ((⟨Cert.KernelIdeal.S131072, .i32⟩ : BufTy).Contents (Elt F)) (Φ₁ (Proc.devRef .tc Cert.KernelIdeal.main_v1244)) (Φ₂ (Proc.devRef .tc Cert.ReferenceIdeal.main_v1251)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 29) rfl) :) e120 e123 e43
  have e125 : @Eq ((⟨Cert.KernelIdeal.S131072x1, .i32⟩ : BufTy).Contents (Elt F)) (Φ₁ (Proc.devRef .tc Cert.KernelIdeal.main_v1245)) (Φ₂ (Proc.devRef .tc Cert.ReferenceIdeal.main_v1252)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 30) rfl) :) e117
  have e126 : @Eq ((⟨Cert.KernelIdeal.S131072x1, .i32⟩ : BufTy).Contents (Elt F)) (Φ₁ (Proc.devRef .tc Cert.KernelIdeal.main_v1246)) (Φ₂ (Proc.devRef .tc Cert.ReferenceIdeal.main_v1253)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 31) rfl) :) e124
  have e127 : @Eq ((⟨Cert.KernelIdeal.S131072x2, .i32⟩ : BufTy).Contents (Elt F)) (Φ₁ (Proc.devRef .tc Cert.KernelIdeal.main_v1247)) (Φ₂ (Proc.devRef .tc Cert.ReferenceIdeal.main_v1254)) := by rw [eq2 (at_ fa8 (i := 52) rfl), eq2 (at_ fb2 (i := 32) rfl), e125, e126] <;> rfl
  have e128 : @Eq ((⟨Cert.KernelIdeal.S32x131072, .f32⟩ : BufTy).Contents (Elt F)) (Φ₁ (Proc.devRef .tc Cert.KernelIdeal.main_v1248)) (Φ₂ (Proc.devRef .tc Cert.ReferenceIdeal.main_v1255)) := by rw [eq2 (at_ fa8 (i := 53) rfl), eq2 (at_ fb2 (i := 33) rfl), x2, e127] <;> rfl
  have e129 : @Eq ((⟨Cert.KernelIdeal.S_, .i32⟩ : BufTy).Contents (Elt F)) (Φ₁ (Proc.devRef .tc Cert.KernelIdeal.main_c_396)) (Φ₂ (Proc.devRef .tc Cert.ReferenceIdeal.main_c_396)) := step0 (β := ((⟨Cert.KernelIdeal.S_, .i32⟩ : BufTy).Contents (Elt F))) (eq0 (at_ fa8 (i := 54) rfl) :) (eq0 (at_ fb2 (i := 34) rfl) :)
  have e130 : @Eq ((⟨Cert.KernelIdeal.S131072, .i32⟩ : BufTy).Contents (Elt F)) (Φ₁ (Proc.devRef .tc Cert.KernelIdeal.main_v1249)) (Φ₂ (Proc.devRef .tc Cert.ReferenceIdeal.main_v1256)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 35) rfl) :) e129
  have e131 : @Eq ((⟨Cert.KernelIdeal.S131072, .i1⟩ : BufTy).Contents (Elt F)) (Φ₁ (Proc.devRef .tc Cert.KernelIdeal.main_v1250)) (Φ₂ (Proc.devRef .tc Cert.ReferenceIdeal.main_v1257)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 36) rfl) :) e74 e130
  have e132 : @Eq ((⟨Cert.KernelIdeal.S_, .i32⟩ : BufTy).Contents (Elt F)) (Φ₁ (Proc.devRef .tc Cert.KernelIdeal.main_c_397)) (Φ₂ (Proc.devRef .tc Cert.ReferenceIdeal.main_c_397)) := step0 (β := ((⟨Cert.KernelIdeal.S_, .i32⟩ : BufTy).Contents (Elt F))) (eq0 (at_ fa8 (i := 57) rfl) :) (eq0 (at_ fb2 (i := 37) rfl) :)
  have e133 : @Eq ((⟨Cert.KernelIdeal.S131072, .i32⟩ : BufTy).Contents (Elt F)) (Φ₁ (Proc.devRef .tc Cert.KernelIdeal.main_v1251)) (Φ₂ (Proc.devRef .tc Cert.ReferenceIdeal.main_v1258)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 38) rfl) :) e132
  have e134 : @Eq ((⟨Cert.KernelIdeal.S131072, .i32⟩ : BufTy).Contents (Elt F)) (Φ₁ (Proc.devRef .tc Cert.KernelIdeal.main_v1252)) (Φ₂ (Proc.devRef .tc Cert.ReferenceIdeal.main_v1259)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 39) rfl) :) e74 e133
  have e135 : @Eq ((⟨Cert.KernelIdeal.S131072, .i32⟩ : BufTy).Contents (Elt F)) (Φ₁ (Proc.devRef .tc Cert.KernelIdeal.main_v1253)) (Φ₂ (Proc.devRef .tc Cert.ReferenceIdeal.main_v1260)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 40) rfl) :) e131 e134 e74
  have e136 : @Eq ((⟨Cert.KernelIdeal.S_, .i32⟩ : BufTy).Contents (Elt F)) (Φ₁ (Proc.devRef .tc Cert.KernelIdeal.main_c_398)) (Φ₂ (Proc.devRef .tc Cert.ReferenceIdeal.main_c_398)) := step0 (β := ((⟨Cert.KernelIdeal.S_, .i32⟩ : BufTy).Contents (Elt F))) (eq0 (at_ fa8 (i := 61) rfl) :) (eq0 (at_ fb2 (i := 41) rfl) :)
  have e137 : @Eq ((⟨Cert.KernelIdeal.S131072, .i32⟩ : BufTy).Contents (Elt F)) (Φ₁ (Proc.devRef .tc Cert.KernelIdeal.main_v1254)) (Φ₂ (Proc.devRef .tc Cert.ReferenceIdeal.main_v1261)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 42) rfl) :) e136
  have e138 : @Eq ((⟨Cert.KernelIdeal.S131072, .i1⟩ : BufTy).Contents (Elt F)) (Φ₁ (Proc.devRef .tc Cert.KernelIdeal.main_v1255)) (Φ₂ (Proc.devRef .tc Cert.ReferenceIdeal.main_v1262)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 43) rfl) :) e54 e137
  have e139 : @Eq ((⟨Cert.KernelIdeal.S_, .i32⟩ : BufTy).Contents (Elt F)) (Φ₁ (Proc.devRef .tc Cert.KernelIdeal.main_c_399)) (Φ₂ (Proc.devRef .tc Cert.ReferenceIdeal.main_c_399)) := step0 (β := ((⟨Cert.KernelIdeal.S_, .i32⟩ : BufTy).Contents (Elt F))) (eq0 (at_ fa8 (i := 64) rfl) :) (eq0 (at_ fb2 (i := 44) rfl) :)
  have e140 : @Eq ((⟨Cert.KernelIdeal.S131072, .i32⟩ : BufTy).Contents (Elt F)) (Φ₁ (Proc.devRef .tc Cert.KernelIdeal.main_v1256)) (Φ₂ (Proc.devRef .tc Cert.ReferenceIdeal.main_v1263)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 45) rfl) :) e139
  have e141 : @Eq ((⟨Cert.KernelIdeal.S131072, .i32⟩ : BufTy).Contents (Elt F)) (Φ₁ (Proc.devRef .tc Cert.KernelIdeal.main_v1257)) (Φ₂ (Proc.devRef .tc Cert.ReferenceIdeal.main_v1264)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 46) rfl) :) e54 e140
  have e142 : @Eq ((⟨Cert.KernelIdeal.S131072, .i32⟩ : BufTy).Contents (Elt F)) (Φ₁ (Proc.devRef .tc Cert.KernelIdeal.main_v1258)) (Φ₂ (Proc.devRef .tc Cert.ReferenceIdeal.main_v1265)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 47) rfl) :) e138 e141 e54
  have e143 : @Eq ((⟨Cert.KernelIdeal.S131072x1, .i32⟩ : BufTy).Contents (Elt F)) (Φ₁ (Proc.devRef .tc Cert.KernelIdeal.main_v1259)) (Φ₂ (Proc.devRef .tc Cert.ReferenceIdeal.main_v1266)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 48) rfl) :) e135
  have e144 : @Eq ((⟨Cert.KernelIdeal.S131072x1, .i32⟩ : BufTy).Contents (Elt F)) (Φ₁ (Proc.devRef .tc Cert.KernelIdeal.main_v1260)) (Φ₂ (Proc.devRef .tc Cert.ReferenceIdeal.main_v1267)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 49) rfl) :) e142
  have e145 : @Eq ((⟨Cert.KernelIdeal.S131072x2, .i32⟩ : BufTy).Contents (Elt F)) (Φ₁ (Proc.devRef .tc Cert.KernelIdeal.main_v1261)) (Φ₂ (Proc.devRef .tc Cert.ReferenceIdeal.main_v1268)) := by rw [eq2 (at_ fa8 (i := 70) rfl), eq2 (at_ fb2 (i := 50) rfl), e143, e144] <;> rfl
  have e146 : @Eq ((⟨Cert.KernelIdeal.S32x131072, .f32⟩ : BufTy).Contents (Elt F)) (Φ₁ (Proc.devRef .tc Cert.KernelIdeal.main_v1262)) (Φ₂ (Proc.devRef .tc Cert.ReferenceIdeal.main_v1269)) := by rw [eq2 (at_ fa8 (i := 71) rfl), eq2 (at_ fb2 (i := 51) rfl), x2, e145] <;> rfl
  have e147 : @Eq ((⟨Cert.KernelIdeal.S_, .f32⟩ : BufTy).Contents (Elt F)) (Φ₁ (Proc.devRef .tc Cert.KernelIdeal.main_cst_400)) (Φ₂ (Proc.devRef .tc Cert.ReferenceIdeal.main_cst_400)) := step0 (β := ((⟨Cert.KernelIdeal.S_, .f32⟩ : BufTy).Contents (Elt F))) (eq0 (at_ fa8 (i := 72) rfl) :) (eq0 (at_ fb2 (i := 52) rfl) :)
  have e148 : @Eq ((⟨Cert.KernelIdeal.S131072, .f32⟩ : BufTy).Contents (Elt F)) (Φ₁ (Proc.devRef .tc Cert.KernelIdeal.main_v1263)) (Φ₂ (Proc.devRef .tc Cert.ReferenceIdeal.main_v1270)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 53) rfl) :) e147
  have e149 : @Eq ((⟨Cert.KernelIdeal.S131072, .f32⟩ : BufTy).Contents (Elt F)) (Φ₁ (Proc.devRef .tc Cert.KernelIdeal.main_v1264)) (Φ₂ (Proc.devRef .tc Cert.ReferenceIdeal.main_v1271)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 54) rfl) :) e148 e33
  have e150 : @Eq ((⟨Cert.KernelIdeal.S1x131072, .f32⟩ : BufTy).Contents (Elt F)) (Φ₁ (Proc.devRef .tc Cert.KernelIdeal.main_v1265)) (Φ₂ (Proc.devRef .tc Cert.ReferenceIdeal.main_v1272)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 55) rfl) :) e149
  have e151 : @Eq ((⟨Cert.KernelIdeal.S32x131072, .f32⟩ : BufTy).Contents (Elt F)) (Φ₁ (Proc.devRef .tc Cert.KernelIdeal.main_v1266)) (Φ₂ (Proc.devRef .tc Cert.ReferenceIdeal.main_v1273)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 56) rfl) :) e150
  have e152 : @Eq ((⟨Cert.KernelIdeal.S32x131072, .f32⟩ : BufTy).Contents (Elt F)) (Φ₁ (Proc.devRef .tc Cert.KernelIdeal.main_v1267)) (Φ₂ (Proc.devRef .tc Cert.ReferenceIdeal.main_v1274)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 57) rfl) :) e92 e151
  have e153 : @Eq ((⟨Cert.KernelIdeal.S_, .f32⟩ : BufTy).Contents (Elt F)) (Φ₁ (Proc.devRef .tc Cert.KernelIdeal.main_cst_401)) (Φ₂ (Proc.devRef .tc Cert.ReferenceIdeal.main_cst_401)) := step0 (β := ((⟨Cert.KernelIdeal.S_, .f32⟩ : BufTy).Contents (Elt F))) (eq0 (at_ fa8 (i := 78) rfl) :) (eq0 (at_ fb2 (i := 58) rfl) :)
  have e154 : @Eq ((⟨Cert.KernelIdeal.S131072, .f32⟩ : BufTy).Contents (Elt F)) (Φ₁ (Proc.devRef .tc Cert.KernelIdeal.main_v1268)) (Φ₂ (Proc.devRef .tc Cert.ReferenceIdeal.main_v1275)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 59) rfl) :) e153
  have e155 : @Eq ((⟨Cert.KernelIdeal.S131072, .f32⟩ : BufTy).Contents (Elt F)) (Φ₁ (Proc.devRef .tc Cert.KernelIdeal.main_v1269)) (Φ₂ (Proc.devRef .tc Cert.ReferenceIdeal.main_v1276)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 0) rfl) :) e154 e34
  have e156 : @Eq ((⟨Cert.KernelIdeal.S1x131072, .f32⟩ : BufTy).Contents (Elt F)) (Φ₁ (Proc.devRef .tc Cert.KernelIdeal.main_v1270)) (Φ₂ (Proc.devRef .tc Cert.ReferenceIdeal.main_v1277)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 1) rfl) :) e155
  have e157 : @Eq ((⟨Cert.KernelIdeal.S32x131072, .f32⟩ : BufTy).Contents (Elt F)) (Φ₁ (Proc.devRef .tc Cert.KernelIdeal.main_v1271)) (Φ₂ (Proc.devRef .tc Cert.ReferenceIdeal.main_v1278)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 2) rfl) :) e156
  have e158 : @Eq ((⟨Cert.KernelIdeal.S32x131072, .f32⟩ : BufTy).Contents (Elt F)) (Φ₁ (Proc.devRef .tc Cert.KernelIdeal.main_v1272)) (Φ₂ (Proc.devRef .tc Cert.ReferenceIdeal.main_v1279)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 3) rfl) :) e152 e157
  have e159 : @Eq ((⟨Cert.KernelIdeal.S1x131072, .f32⟩ : BufTy).Contents (Elt F)) (Φ₁ (Proc.devRef .tc Cert.KernelIdeal.main_v1273)) (Φ₂ (Proc.devRef .tc Cert.ReferenceIdeal.main_v1280)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 4) rfl) :) e33
  have e160 : @Eq ((⟨Cert.KernelIdeal.S32x131072, .f32⟩ : BufTy).Contents (Elt F)) (Φ₁ (Proc.devRef .tc Cert.KernelIdeal.main_v1274)) (Φ₂ (Proc.devRef .tc Cert.ReferenceIdeal.main_v1281)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 5) rfl) :) e159
  have e161 : @Eq ((⟨Cert.KernelIdeal.S32x131072, .f32⟩ : BufTy).Contents (Elt F)) (Φ₁ (Proc.devRef .tc Cert.KernelIdeal.main_v1275)) (Φ₂ (Proc.devRef .tc Cert.ReferenceIdeal.main_v1282)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 6) rfl) :) e110 e160
  have e162 : @Eq ((⟨Cert.KernelIdeal.S_, .f32⟩ : BufTy).Contents (Elt F)) (Φ₁ (Proc.devRef .tc Cert.KernelIdeal.main_cst_402)) (Φ₂ (Proc.devRef .tc Cert.ReferenceIdeal.main_cst_402)) := step0 (β := ((⟨Cert.KernelIdeal.S_, .f32⟩ : BufTy).Contents (Elt F))) (eq0 (at_ fa8 (i := 87) rfl) :) (eq0 (at_ fb3 (i := 7) rfl) :)
  have e163 : @Eq ((⟨Cert.KernelIdeal.S131072, .f32⟩ : BufTy).Contents (Elt F)) (Φ₁ (Proc.devRef .tc Cert.KernelIdeal.main_v1276)) (Φ₂ (Proc.devRef .tc Cert.ReferenceIdeal.main_v1283)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 8) rfl) :) e162
  have e164 : @Eq ((⟨Cert.KernelIdeal.S131072, .f32⟩ : BufTy).Contents (Elt F)) (Φ₁ (Proc.devRef .tc Cert.KernelIdeal.main_v1277)) (Φ₂ (Proc.devRef .tc Cert.ReferenceIdeal.main_v1284)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 9) rfl) :) e163 e34
  have e165 : @Eq ((⟨Cert.KernelIdeal.S1x131072, .f32⟩ : BufTy).Contents (Elt F)) (Φ₁ (Proc.devRef .tc Cert.KernelIdeal.main_v1278)) (Φ₂ (Proc.devRef .tc Cert.ReferenceIdeal.main_v1285)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 10) rfl) :) e164
  have e166 : @Eq ((⟨Cert.KernelIdeal.S32x131072, .f32⟩ : BufTy).Contents (Elt F)) (Φ₁ (Proc.devRef .tc Cert.KernelIdeal.main_v1279)) (Φ₂ (Proc.devRef .tc Cert.ReferenceIdeal.main_v1286)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 11) rfl) :) e165
  have e167 : @Eq ((⟨Cert.KernelIdeal.S32x131072, .f32⟩ : BufTy).Contents (Elt F)) (Φ₁ (Proc.devRef .tc Cert.KernelIdeal.main_v1280)) (Φ₂ (Proc.devRef .tc Cert.ReferenceIdeal.main_v1287)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 12) rfl) :) e161 e166
  have e168 : @Eq ((⟨Cert.KernelIdeal.S32x131072, .f32⟩ : BufTy).Contents (Elt F)) (Φ₁ (Proc.devRef .tc Cert.KernelIdeal.main_v1281)) (Φ₂ (Proc.devRef .tc Cert.ReferenceIdeal.main_v1288)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 13) rfl) :) e158 e167
  have e169 : @Eq ((⟨Cert.KernelIdeal.S_, .f32⟩ : BufTy).Contents (Elt F)) (Φ₁ (Proc.devRef .tc Cert.KernelIdeal.main_cst_403)) (Φ₂ (Proc.devRef .tc Cert.ReferenceIdeal.main_cst_403)) := step0 (β := ((⟨Cert.KernelIdeal.S_, .f32⟩ : BufTy).Contents (Elt F))) (eq0 (at_ fa8 (i := 94) rfl) :) (eq0 (at_ fb3 (i := 14) rfl) :)
  have e170 : @Eq ((⟨Cert.KernelIdeal.S131072, .f32⟩ : BufTy).Contents (Elt F)) (Φ₁ (Proc.devRef .tc Cert.KernelIdeal.main_v1282)) (Φ₂ (Proc.devRef .tc Cert.ReferenceIdeal.main_v1289)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 15) rfl) :) e169
  have e171 : @Eq ((⟨Cert.KernelIdeal.S131072, .f32⟩ : BufTy).Contents (Elt F)) (Φ₁ (Proc.devRef .tc Cert.KernelIdeal.main_v1283)) (Φ₂ (Proc.devRef .tc Cert.ReferenceIdeal.main_v1290)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 16) rfl) :) e170 e33
  have e172 : @Eq ((⟨Cert.KernelIdeal.S1x131072, .f32⟩ : BufTy).Contents (Elt F)) (Φ₁ (Proc.devRef .tc Cert.KernelIdeal.main_v1284)) (Φ₂ (Proc.devRef .tc Cert.ReferenceIdeal.main_v1291)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 17) rfl) :) e171
  have e173 : @Eq ((⟨Cert.KernelIdeal.S32x131072, .f32⟩ : BufTy).Contents (Elt F)) (Φ₁ (Proc.devRef .tc Cert.KernelIdeal.main_v1285)) (Φ₂ (Proc.devRef .tc Cert.ReferenceIdeal.main_v1292)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 18) rfl) :) e172
  have e174 : @Eq ((⟨Cert.KernelIdeal.S32x131072, .f32⟩ : BufTy).Contents (Elt F)) (Φ₁ (Proc.devRef .tc Cert.KernelIdeal.main_v1286)) (Φ₂ (Proc.devRef .tc Cert.ReferenceIdeal.main_v1293)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 19) rfl) :) e128 e173
  have e175 : @Eq ((⟨Cert.KernelIdeal.S1x131072, .f32⟩ : BufTy).Contents (Elt F)) (Φ₁ (Proc.devRef .tc Cert.KernelIdeal.main_v1287)) (Φ₂ (Proc.devRef .tc Cert.ReferenceIdeal.main_v1294)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 20) rfl) :) e34
  have e176 : @Eq ((⟨Cert.KernelIdeal.S32x131072, .f32⟩ : BufTy).Contents (Elt F)) (Φ₁ (Proc.devRef .tc Cert.KernelIdeal.main_v1288)) (Φ₂ (Proc.devRef .tc Cert.ReferenceIdeal.main_v1295)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 21) rfl) :) e175
  have e177 : @Eq ((⟨Cert.KernelIdeal.S32x131072, .f32⟩ : BufTy).Contents (Elt F)) (Φ₁ (Proc.devRef .tc Cert.KernelIdeal.main_v1289)) (Φ₂ (Proc.devRef .tc Cert.ReferenceIdeal.main_v1296)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 22) rfl) :) e174 e176
  have e178 : @Eq ((⟨Cert.KernelIdeal.S32x131072, .f32⟩ : BufTy).Contents (Elt F)) (Φ₁ (Proc.devRef .tc Cert.KernelIdeal.main_v1290)) (Φ₂ (Proc.devRef .tc Cert.ReferenceIdeal.main_v1297)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 23) rfl) :) e168 e177
  have e179 : @Eq ((⟨Cert.KernelIdeal.S1x131072, .f32⟩ : BufTy).Contents (Elt F)) (Φ₁ (Proc.devRef .tc Cert.KernelIdeal.main_v1291)) (Φ₂ (Proc.devRef .tc Cert.ReferenceIdeal.main_v1298)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 24) rfl) :) e33
  have e180 : @Eq ((⟨Cert.KernelIdeal.S32x131072, .f32⟩ : BufTy).Contents (Elt F)) (Φ₁ (Proc.devRef .tc Cert.KernelIdeal.main_v1292)) (Φ₂ (Proc.devRef .tc Cert.ReferenceIdeal.main_v1299)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 25) rfl) :) e179
  have e181 : @Eq ((⟨Cert.KernelIdeal.S32x131072, .f32⟩ : BufTy).Contents (Elt F)) (Φ₁ (Proc.devRef .tc Cert.KernelIdeal.main_v1293)) (Φ₂ (Proc.devRef .tc Cert.ReferenceIdeal.main_v1300)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 26) rfl) :) e146 e180
  have e182 : @Eq ((⟨Cert.KernelIdeal.S1x131072, .f32⟩ : BufTy).Contents (Elt F)) (Φ₁ (Proc.devRef .tc Cert.KernelIdeal.main_v1294)) (Φ₂ (Proc.devRef .tc Cert.ReferenceIdeal.main_v1301)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 27) rfl) :) e34
  have e183 : @Eq ((⟨Cert.KernelIdeal.S32x131072, .f32⟩ : BufTy).Contents (Elt F)) (Φ₁ (Proc.devRef .tc Cert.KernelIdeal.main_v1295)) (Φ₂ (Proc.devRef .tc Cert.ReferenceIdeal.main_v1302)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 28) rfl) :) e182
  have e184 : @Eq ((⟨Cert.KernelIdeal.S32x131072, .f32⟩ : BufTy).Contents (Elt F)) (Φ₁ (Proc.devRef .tc Cert.KernelIdeal.main_v1296)) (Φ₂ (Proc.devRef .tc Cert.ReferenceIdeal.main_v1303)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 29) rfl) :) e181 e183
  have e185 : @Eq ((⟨Cert.KernelIdeal.S32x131072, .f32⟩ : BufTy).Contents (Elt F)) (Φ₁ (Proc.devRef .tc Cert.KernelIdeal.main_v1297)) (Φ₂ (Proc.devRef .tc Cert.ReferenceIdeal.main_v1304)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 30) rfl) :) e178 e184
  have e186 : @Eq ((⟨Cert.KernelIdeal.S131072x32, .f32⟩ : BufTy).Contents (Elt F)) (Φ₁ (Proc.devRef .tc Cert.KernelIdeal.main_v1298)) (Φ₂ (Proc.devRef .tc Cert.ReferenceIdeal.main_v1305)) := by rw [eq1 (at_ fa8 (i := 111) rfl), eq1 (at_ fb3 (i := 31) rfl), e185] <;> rfl
  exact e186

end Cert.Bridge

end
-- ==== Proof.SimB10.lean ====
/- Operations 1905 … 2091 of the one program and 1913 … 2099 of the other apply the same functions to corresponding
   buffers. If both programs' final contents satisfy their own lines' equations and agree on the buffers these operations
   read from outside, they agree on what these operations write: one congruence per operation, in program order. -/
import proofs.«133805_j10187662426200_2_alg».proof.Proof.KIStretch2
import proofs.«133805_j10187662426200_2_alg».proof.Proof.RefOps3
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B10 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_80 : List (HloOp Cert.KernelIdeal.τ Cert.KernelIdeal.sig (Elt F))).Forall fun op => ∀ b ∈ op.writes, Φ₁ b = op.result Φ₁ b)
    (fa1 : (Cert.KernelIdeal.Gen.hostOps0_81 : List (HloOp Cert.KernelIdeal.τ Cert.KernelIdeal.sig (Elt F))).Forall fun op => ∀ b ∈ op.writes, Φ₁ b = op.result Φ₁ b)
    (fa2 : (Cert.KernelIdeal.Gen.hostOps0_82 : List (HloOp Cert.KernelIdeal.τ Cert.KernelIdeal.sig (Elt F))).Forall fun op => ∀ b ∈ op.writes, Φ₁ b = op.result Φ₁ b)
    (fa3 : (Cert.KernelIdeal.Gen.hostOps0_83 : List (HloOp Cert.KernelIdeal.τ Cert.KernelIdeal.sig (Elt F))).Forall fun op => ∀ b ∈ op.writes, Φ₁ b = op.result Φ₁ b)
    (fa4 : (Cert.KernelIdeal.Gen.hostOps0_84 : List (HloOp Cert.KernelIdeal.τ Cert.KernelIdeal.sig (Elt F))).Forall fun op => ∀ b ∈ op.writes, Φ₁ b = op.result Φ₁ b)
    (fa5 : (Cert.KernelIdeal.Gen.hostOps0_85 : List (HloOp Cert.KernelIdeal.τ Cert.KernelIdeal.sig (Elt F))).Forall fun op => ∀ b ∈ op.writes, Φ₁ b = op.result Φ₁ b)
    (fa6 : (Cert.KernelIdeal.Gen.hostOps0_86 : List (HloOp Cert.KernelIdeal.τ Cert.KernelIdeal.sig (Elt F))).Forall fun op => ∀ b ∈ op.writes, Φ₁ b = op.result Φ₁ b)
    (fa7 : (Cert.KernelIdeal.Gen.hostOps0_87 : List (HloOp Cert.KernelIdeal.τ Cert.KernelIdeal.sig (Elt F))).Forall fun op => ∀ b ∈ op.writes, Φ₁ b = op.result Φ₁ b)
    (fa8 : (Cert.KernelIdeal.Gen.hostOps0_88 : List (HloOp Cert.KernelIdeal.τ Cert.KernelIdeal.sig (Elt F))).Forall fun op => ∀ b ∈ op.writes, Φ₁ b = op.result Φ₁ b)
    (fb0 : (Cert.ReferenceIdeal.Ops.w28 : List (HloOp Cert.ReferenceIdeal.τ Cert.ReferenceIdeal.sig (Elt F))).Forall fun op => ∀ b ∈ op.writes, Φ₂ b = op.result Φ₂ b)
    (fb1 : (Cert.ReferenceIdeal.Ops.w29 : List (HloOp Cert.ReferenceIdeal.τ Cert.ReferenceIdeal.sig (Elt F))).Forall fun op => ∀ b ∈ op.writes, Φ₂ b = op.result Φ₂ b)
    (fb2 : (Cert.ReferenceIdeal.Ops.w30 : List (HloOp Cert.ReferenceIdeal.τ Cert.ReferenceIdeal.sig (Elt F))).Forall fun op => ∀ b ∈ op.writes, Φ₂ b = op.result Φ₂ b)
    (fb3 : (Cert.ReferenceIdeal.Ops.w31 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_9)) (Φ₂ (Proc.devRef .tc Cert.ReferenceIdeal.main_c_9)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x128, .f32⟩ : BufTy).Contents (Elt F)) (Φ₁ (Proc.devRef .tc Cert.KernelIdeal.main_arg12)) (Φ₂ (Proc.devRef .tc Cert.ReferenceIdeal.main_arg12)))
    : @Eq ((⟨Cert.KernelIdeal.S131072x32, .f32⟩ : BufTy).Contents (Elt F)) (Φ₁ (Proc.devRef .tc Cert.KernelIdeal.main_v1427)) (Φ₂ (Proc.devRef .tc Cert.ReferenceIdeal.main_v1435)) := by
  have e0 : @Eq ((⟨Cert.KernelIdeal.S_, .i32⟩ : BufTy).Contents (Elt F)) (Φ₁ (Proc.devRef .tc Cert.KernelIdeal.main_c_404)) (Φ₂ (Proc.devRef .tc Cert.ReferenceIdeal.main_c_404)) := step0 (β := ((⟨Cert.KernelIdeal.S_, .i32⟩ : BufTy).Contents (Elt F))) (eq0 (at_ fa0 (i := 112) rfl) :) (eq0 (at_ fb0 (i := 33) rfl) :)
  have e1 : @Eq ((⟨Cert.KernelIdeal.S2, .i32⟩ : BufTy).Contents (Elt F)) (Φ₁ (Proc.devRef .tc Cert.KernelIdeal.main_v1299)) (Φ₂ (Proc.devRef .tc Cert.ReferenceIdeal.main_v1307)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 34) rfl) :) e0
  have e2 : @Eq ((⟨Cert.KernelIdeal.S2, .i1⟩ : BufTy).Contents (Elt F)) (Φ₁ (Proc.devRef .tc Cert.KernelIdeal.main_v1300)) (Φ₂ (Proc.devRef .tc Cert.ReferenceIdeal.main_v1308)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 35) rfl) :) x0 e1
  have e3 : @Eq ((⟨Cert.KernelIdeal.S_, .i32⟩ : BufTy).Contents (Elt F)) (Φ₁ (Proc.devRef .tc Cert.KernelIdeal.main_c_405)) (Φ₂ (Proc.devRef .tc Cert.ReferenceIdeal.main_c_405)) := step0 (β := ((⟨Cert.KernelIdeal.S_, .i32⟩ : BufTy).Contents (Elt F))) (eq0 (at_ fa0 (i := 115) rfl) :) (eq0 (at_ fb0 (i := 36) rfl) :)
  have e4 : @Eq ((⟨Cert.KernelIdeal.S2, .i32⟩ : BufTy).Contents (Elt F)) (Φ₁ (Proc.devRef .tc Cert.KernelIdeal.main_v1301)) (Φ₂ (Proc.devRef .tc Cert.ReferenceIdeal.main_v1309)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 37) rfl) :) e3
  have e5 : @Eq ((⟨Cert.KernelIdeal.S2, .i32⟩ : BufTy).Contents (Elt F)) (Φ₁ (Proc.devRef .tc Cert.KernelIdeal.main_v1302)) (Φ₂ (Proc.devRef .tc Cert.ReferenceIdeal.main_v1310)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 38) rfl) :) x0 e4
  have e6 : @Eq ((⟨Cert.KernelIdeal.S2, .i32⟩ : BufTy).Contents (Elt F)) (Φ₁ (Proc.devRef .tc Cert.KernelIdeal.main_v1303)) (Φ₂ (Proc.devRef .tc Cert.ReferenceIdeal.main_v1311)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 39) rfl) :) e2 e5 x0
  have e7 : @Eq ((⟨Cert.KernelIdeal.S2x1, .i32⟩ : BufTy).Contents (Elt F)) (Φ₁ (Proc.devRef .tc Cert.KernelIdeal.main_v1304)) (Φ₂ (Proc.devRef .tc Cert.ReferenceIdeal.main_v1312)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 40) rfl) :) e6
  have e8 : @Eq ((⟨Cert.KernelIdeal.S131072x2, .f32⟩ : BufTy).Contents (Elt F)) (Φ₁ (Proc.devRef .tc Cert.KernelIdeal.main_v1305)) (Φ₂ (Proc.devRef .tc Cert.ReferenceIdeal.main_v1313)) := by rw [eq2 (at_ fa0 (i := 120) rfl), eq2 (at_ fb0 (i := 41) rfl), x1, e7] <;> rfl
  have e9 : @Eq ((⟨Cert.KernelIdeal.S131072x1, .f32⟩ : BufTy).Contents (Elt F)) (Φ₁ (Proc.devRef .tc Cert.KernelIdeal.main_v1306)) (Φ₂ (Proc.devRef .tc Cert.ReferenceIdeal.main_v1314)) := by rw [eq1 (at_ fa0 (i := 121) rfl), eq1 (at_ fb0 (i := 42) rfl), e8] <;> rfl
  have e10 : @Eq ((⟨Cert.KernelIdeal.S131072, .f32⟩ : BufTy).Contents (Elt F)) (Φ₁ (Proc.devRef .tc Cert.KernelIdeal.main_v1307)) (Φ₂ (Proc.devRef .tc Cert.ReferenceIdeal.main_v1315)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 43) rfl) :) e9
  have e11 : @Eq ((⟨Cert.KernelIdeal.S_, .f32⟩ : BufTy).Contents (Elt F)) (Φ₁ (Proc.devRef .tc Cert.KernelIdeal.main_cst_406)) (Φ₂ (Proc.devRef .tc Cert.ReferenceIdeal.main_cst_406)) := step0 (β := ((⟨Cert.KernelIdeal.S_, .f32⟩ : BufTy).Contents (Elt F))) (eq0 (at_ fa0 (i := 123) rfl) :) (eq0 (at_ fb0 (i := 44) rfl) :)
  have e12 : @Eq ((⟨Cert.KernelIdeal.S131072, .f32⟩ : BufTy).Contents (Elt F)) (Φ₁ (Proc.devRef .tc Cert.KernelIdeal.main_v1308)) (Φ₂ (Proc.devRef .tc Cert.ReferenceIdeal.main_v1316)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 45) rfl) :) e11
  have e13 : @Eq ((⟨Cert.KernelIdeal.S131072, .f32⟩ : BufTy).Contents (Elt F)) (Φ₁ (Proc.devRef .tc Cert.KernelIdeal.main_v1309)) (Φ₂ (Proc.devRef .tc Cert.ReferenceIdeal.main_v1317)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 46) rfl) :) e10 e12
  have e14 : @Eq ((⟨Cert.KernelIdeal.S_, .f32⟩ : BufTy).Contents (Elt F)) (Φ₁ (Proc.devRef .tc Cert.KernelIdeal.main_cst_407)) (Φ₂ (Proc.devRef .tc Cert.ReferenceIdeal.main_cst_407)) := step0 (β := ((⟨Cert.KernelIdeal.S_, .f32⟩ : BufTy).Contents (Elt F))) (eq0 (at_ fa0 (i := 126) rfl) :) (eq0 (at_ fb0 (i := 47) rfl) :)
  have e15 : @Eq ((⟨Cert.KernelIdeal.S131072, .f32⟩ : BufTy).Contents (Elt F)) (Φ₁ (Proc.devRef .tc Cert.KernelIdeal.main_v1310)) (Φ₂ (Proc.devRef .tc Cert.ReferenceIdeal.main_v1318)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 48) rfl) :) e14
  have e16 : @Eq ((⟨Cert.KernelIdeal.S131072, .f32⟩ : BufTy).Contents (Elt F)) (Φ₁ (Proc.devRef .tc Cert.KernelIdeal.main_v1311)) (Φ₂ (Proc.devRef .tc Cert.ReferenceIdeal.main_v1319)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 49) rfl) :) e13 e15
  have e17 : @Eq ((⟨Cert.KernelIdeal.S_, .f32⟩ : BufTy).Contents (Elt F)) (Φ₁ (Proc.devRef .tc Cert.KernelIdeal.main_cst_408)) (Φ₂ (Proc.devRef .tc Cert.ReferenceIdeal.main_cst_408)) := step0 (β := ((⟨Cert.KernelIdeal.S_, .f32⟩ : BufTy).Contents (Elt F))) (eq0 (at_ fa0 (i := 129) rfl) :) (eq0 (at_ fb0 (i := 50) rfl) :)
  have e18 : @Eq ((⟨Cert.KernelIdeal.S131072, .f32⟩ : BufTy).Contents (Elt F)) (Φ₁ (Proc.devRef .tc Cert.KernelIdeal.main_v1312)) (Φ₂ (Proc.devRef .tc Cert.ReferenceIdeal.main_v1320)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 51) rfl) :) e17
  have e19 : @Eq ((⟨Cert.KernelIdeal.S131072, .f32⟩ : BufTy).Contents (Elt F)) (Φ₁ (Proc.devRef .tc Cert.KernelIdeal.main_v1313)) (Φ₂ (Proc.devRef .tc Cert.ReferenceIdeal.main_v1321)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 52) rfl) :) e16 e18
  have e20 : @Eq ((⟨Cert.KernelIdeal.S131072x1, .f32⟩ : BufTy).Contents (Elt F)) (Φ₁ (Proc.devRef .tc Cert.KernelIdeal.main_v1314)) (Φ₂ (Proc.devRef .tc Cert.ReferenceIdeal.main_v1322)) := by rw [eq1 (at_ fa0 (i := 132) rfl), eq1 (at_ fb0 (i := 53) rfl), e8] <;> rfl
  have e21 : @Eq ((⟨Cert.KernelIdeal.S131072, .f32⟩ : BufTy).Contents (Elt F)) (Φ₁ (Proc.devRef .tc Cert.KernelIdeal.main_v1315)) (Φ₂ (Proc.devRef .tc Cert.ReferenceIdeal.main_v1323)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 54) rfl) :) e20
  have e22 : @Eq ((⟨Cert.KernelIdeal.S_, .f32⟩ : BufTy).Contents (Elt F)) (Φ₁ (Proc.devRef .tc Cert.KernelIdeal.main_cst_409)) (Φ₂ (Proc.devRef .tc Cert.ReferenceIdeal.main_cst_409)) := step0 (β := ((⟨Cert.KernelIdeal.S_, .f32⟩ : BufTy).Contents (Elt F))) (eq0 (at_ fa0 (i := 134) rfl) :) (eq0 (at_ fb0 (i := 55) rfl) :)
  have e23 : @Eq ((⟨Cert.KernelIdeal.S131072, .f32⟩ : BufTy).Contents (Elt F)) (Φ₁ (Proc.devRef .tc Cert.KernelIdeal.main_v1316)) (Φ₂ (Proc.devRef .tc Cert.ReferenceIdeal.main_v1324)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 56) rfl) :) e22
  have e24 : @Eq ((⟨Cert.KernelIdeal.S131072, .f32⟩ : BufTy).Contents (Elt F)) (Φ₁ (Proc.devRef .tc Cert.KernelIdeal.main_v1317)) (Φ₂ (Proc.devRef .tc Cert.ReferenceIdeal.main_v1325)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 57) rfl) :) e21 e23
  have e25 : @Eq ((⟨Cert.KernelIdeal.S_, .f32⟩ : BufTy).Contents (Elt F)) (Φ₁ (Proc.devRef .tc Cert.KernelIdeal.main_cst_410)) (Φ₂ (Proc.devRef .tc Cert.ReferenceIdeal.main_cst_410)) := step0 (β := ((⟨Cert.KernelIdeal.S_, .f32⟩ : BufTy).Contents (Elt F))) (eq0 (at_ fa0 (i := 137) rfl) :) (eq0 (at_ fb0 (i := 58) rfl) :)
  have e26 : @Eq ((⟨Cert.KernelIdeal.S131072, .f32⟩ : BufTy).Contents (Elt F)) (Φ₁ (Proc.devRef .tc Cert.KernelIdeal.main_v1318)) (Φ₂ (Proc.devRef .tc Cert.ReferenceIdeal.main_v1326)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 59) rfl) :) e25
  have e27 : @Eq ((⟨Cert.KernelIdeal.S131072, .f32⟩ : BufTy).Contents (Elt F)) (Φ₁ (Proc.devRef .tc Cert.KernelIdeal.main_v1319)) (Φ₂ (Proc.devRef .tc Cert.ReferenceIdeal.main_v1327)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 0) rfl) :) e24 e26
  have e28 : @Eq ((⟨Cert.KernelIdeal.S_, .f32⟩ : BufTy).Contents (Elt F)) (Φ₁ (Proc.devRef .tc Cert.KernelIdeal.main_cst_411)) (Φ₂ (Proc.devRef .tc Cert.ReferenceIdeal.main_cst_411)) := step0 (β := ((⟨Cert.KernelIdeal.S_, .f32⟩ : BufTy).Contents (Elt F))) (eq0 (at_ fa0 (i := 140) rfl) :) (eq0 (at_ fb1 (i := 1) rfl) :)
  have e29 : @Eq ((⟨Cert.KernelIdeal.S131072, .f32⟩ : BufTy).Contents (Elt F)) (Φ₁ (Proc.devRef .tc Cert.KernelIdeal.main_v1320)) (Φ₂ (Proc.devRef .tc Cert.ReferenceIdeal.main_v1328)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 2) rfl) :) e28
  have e30 : @Eq ((⟨Cert.KernelIdeal.S131072, .f32⟩ : BufTy).Contents (Elt F)) (Φ₁ (Proc.devRef .tc Cert.KernelIdeal.main_v1321)) (Φ₂ (Proc.devRef .tc Cert.ReferenceIdeal.main_v1329)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 3) rfl) :) e27 e29
  have e31 : @Eq ((⟨Cert.KernelIdeal.S131072, .f32⟩ : BufTy).Contents (Elt F)) (Φ₁ (Proc.devRef .tc Cert.KernelIdeal.main_v1322)) (Φ₂ (Proc.devRef .tc Cert.ReferenceIdeal.main_v1330)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 4) rfl) :) e19
  have e32 : @Eq ((⟨Cert.KernelIdeal.S131072, .f32⟩ : BufTy).Contents (Elt F)) (Φ₁ (Proc.devRef .tc Cert.KernelIdeal.main_v1323)) (Φ₂ (Proc.devRef .tc Cert.ReferenceIdeal.main_v1331)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 5) rfl) :) e30
  have e33 : @Eq ((⟨Cert.KernelIdeal.S131072, .f32⟩ : BufTy).Contents (Elt F)) (Φ₁ (Proc.devRef .tc Cert.KernelIdeal.main_v1324)) (Φ₂ (Proc.devRef .tc Cert.ReferenceIdeal.main_v1332)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 6) rfl) :) e19 e31
  have e34 : @Eq ((⟨Cert.KernelIdeal.S131072, .f32⟩ : BufTy).Contents (Elt F)) (Φ₁ (Proc.devRef .tc Cert.KernelIdeal.main_v1325)) (Φ₂ (Proc.devRef .tc Cert.ReferenceIdeal.main_v1333)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 7) rfl) :) e30 e32
  have e35 : @Eq ((⟨Cert.KernelIdeal.S131072, .i32⟩ : BufTy).Contents (Elt F)) (Φ₁ (Proc.devRef .tc Cert.KernelIdeal.main_v1326)) (Φ₂ (Proc.devRef .tc Cert.ReferenceIdeal.main_v1334)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 8) rfl) :) e31
  have e36 : @Eq ((⟨Cert.KernelIdeal.S_, .i32⟩ : BufTy).Contents (Elt F)) (Φ₁ (Proc.devRef .tc Cert.KernelIdeal.main_c_412)) (Φ₂ (Proc.devRef .tc Cert.ReferenceIdeal.main_c_412)) := step0 (β := ((⟨Cert.KernelIdeal.S_, .i32⟩ : BufTy).Contents (Elt F))) (eq0 (at_ fa0 (i := 148) rfl) :) (eq0 (at_ fb1 (i := 9) rfl) :)
  have e37 : @Eq ((⟨Cert.KernelIdeal.S_, .i32⟩ : BufTy).Contents (Elt F)) (Φ₁ (Proc.devRef .tc Cert.KernelIdeal.main_c_413)) (Φ₂ (Proc.devRef .tc Cert.ReferenceIdeal.main_c_413)) := step0 (β := ((⟨Cert.KernelIdeal.S_, .i32⟩ : BufTy).Contents (Elt F))) (eq0 (at_ fa0 (i := 149) rfl) :) (eq0 (at_ fb1 (i := 10) rfl) :)
  have e38 : @Eq ((⟨Cert.KernelIdeal.S_, .i32⟩ : BufTy).Contents (Elt F)) (Φ₁ (Proc.devRef .tc Cert.KernelIdeal.main_call40_v0)) (Φ₂ (Proc.devRef .tc Cert.ReferenceIdeal.main_call40_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 11) rfl) :) e36
  have e39 : @Eq ((⟨Cert.KernelIdeal.S131072, .i32⟩ : BufTy).Contents (Elt F)) (Φ₁ (Proc.devRef .tc Cert.KernelIdeal.main_call40_v1)) (Φ₂ (Proc.devRef .tc Cert.ReferenceIdeal.main_call40_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 12) rfl) :) e38
  have e40 : @Eq ((⟨Cert.KernelIdeal.S131072, .i32⟩ : BufTy).Contents (Elt F)) (Φ₁ (Proc.devRef .tc Cert.KernelIdeal.main_call40_v2)) (Φ₂ (Proc.devRef .tc Cert.ReferenceIdeal.main_call40_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 13) rfl) :) e39 e35
  have e41 : @Eq ((⟨Cert.KernelIdeal.S_, .i32⟩ : BufTy).Contents (Elt F)) (Φ₁ (Proc.devRef .tc Cert.KernelIdeal.main_call40_v3)) (Φ₂ (Proc.devRef .tc Cert.ReferenceIdeal.main_call40_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 14) rfl) :) e37
  have e42 : @Eq ((⟨Cert.KernelIdeal.S131072, .i32⟩ : BufTy).Contents (Elt F)) (Φ₁ (Proc.devRef .tc Cert.KernelIdeal.main_call40_v4)) (Φ₂ (Proc.devRef .tc Cert.ReferenceIdeal.main_call40_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 15) rfl) :) e41
  have e43 : @Eq ((⟨Cert.KernelIdeal.S131072, .i32⟩ : BufTy).Contents (Elt F)) (Φ₁ (Proc.devRef .tc Cert.KernelIdeal.main_v1327)) (Φ₂ (Proc.devRef .tc Cert.ReferenceIdeal.main_v1335)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 16) rfl) :) e42 e40
  have e44 : @Eq ((⟨Cert.KernelIdeal.S_, .i32⟩ : BufTy).Contents (Elt F)) (Φ₁ (Proc.devRef .tc Cert.KernelIdeal.main_c_414)) (Φ₂ (Proc.devRef .tc Cert.ReferenceIdeal.main_c_414)) := step0 (β := ((⟨Cert.KernelIdeal.S_, .i32⟩ : BufTy).Contents (Elt F))) (eq0 (at_ fa2 (i := 0) rfl) :) (eq0 (at_ fb1 (i := 17) rfl) :)
  have e45 : @Eq ((⟨Cert.KernelIdeal.S131072, .i32⟩ : BufTy).Contents (Elt F)) (Φ₁ (Proc.devRef .tc Cert.KernelIdeal.main_v1328)) (Φ₂ (Proc.devRef .tc Cert.ReferenceIdeal.main_v1336)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 18) rfl) :) e44
  have e46 : @Eq ((⟨Cert.KernelIdeal.S131072, .i32⟩ : BufTy).Contents (Elt F)) (Φ₁ (Proc.devRef .tc Cert.KernelIdeal.main_v1329)) (Φ₂ (Proc.devRef .tc Cert.ReferenceIdeal.main_v1337)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 19) rfl) :) e43 e45
  have e47 : @Eq ((⟨Cert.KernelIdeal.S_, .i32⟩ : BufTy).Contents (Elt F)) (Φ₁ (Proc.devRef .tc Cert.KernelIdeal.main_c_415)) (Φ₂ (Proc.devRef .tc Cert.ReferenceIdeal.main_c_415)) := step0 (β := ((⟨Cert.KernelIdeal.S_, .i32⟩ : BufTy).Contents (Elt F))) (eq0 (at_ fa2 (i := 3) rfl) :) (eq0 (at_ fb1 (i := 20) rfl) :)
  have e48 : @Eq ((⟨Cert.KernelIdeal.S_, .i32⟩ : BufTy).Contents (Elt F)) (Φ₁ (Proc.devRef .tc Cert.KernelIdeal.main_c_416)) (Φ₂ (Proc.devRef .tc Cert.ReferenceIdeal.main_c_416)) := step0 (β := ((⟨Cert.KernelIdeal.S_, .i32⟩ : BufTy).Contents (Elt F))) (eq0 (at_ fa2 (i := 4) rfl) :) (eq0 (at_ fb1 (i := 21) rfl) :)
  have e49 : @Eq ((⟨Cert.KernelIdeal.S_, .i32⟩ : BufTy).Contents (Elt F)) (Φ₁ (Proc.devRef .tc Cert.KernelIdeal.main_call41_v0)) (Φ₂ (Proc.devRef .tc Cert.ReferenceIdeal.main_call41_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 22) rfl) :) e47
  have e50 : @Eq ((⟨Cert.KernelIdeal.S131072, .i32⟩ : BufTy).Contents (Elt F)) (Φ₁ (Proc.devRef .tc Cert.KernelIdeal.main_call41_v1)) (Φ₂ (Proc.devRef .tc Cert.ReferenceIdeal.main_call41_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 23) rfl) :) e49
  have e51 : @Eq ((⟨Cert.KernelIdeal.S131072, .i32⟩ : BufTy).Contents (Elt F)) (Φ₁ (Proc.devRef .tc Cert.KernelIdeal.main_call41_v2)) (Φ₂ (Proc.devRef .tc Cert.ReferenceIdeal.main_call41_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 24) rfl) :) e50 e46
  have e52 : @Eq ((⟨Cert.KernelIdeal.S_, .i32⟩ : BufTy).Contents (Elt F)) (Φ₁ (Proc.devRef .tc Cert.KernelIdeal.main_call41_v3)) (Φ₂ (Proc.devRef .tc Cert.ReferenceIdeal.main_call41_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 25) rfl) :) e48
  have e53 : @Eq ((⟨Cert.KernelIdeal.S131072, .i32⟩ : BufTy).Contents (Elt F)) (Φ₁ (Proc.devRef .tc Cert.KernelIdeal.main_call41_v4)) (Φ₂ (Proc.devRef .tc Cert.ReferenceIdeal.main_call41_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 26) rfl) :) e52
  have e54 : @Eq ((⟨Cert.KernelIdeal.S131072, .i32⟩ : BufTy).Contents (Elt F)) (Φ₁ (Proc.devRef .tc Cert.KernelIdeal.main_v1330)) (Φ₂ (Proc.devRef .tc Cert.ReferenceIdeal.main_v1338)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 27) rfl) :) e53 e51
  have e55 : @Eq ((⟨Cert.KernelIdeal.S131072, .i32⟩ : BufTy).Contents (Elt F)) (Φ₁ (Proc.devRef .tc Cert.KernelIdeal.main_v1331)) (Φ₂ (Proc.devRef .tc Cert.ReferenceIdeal.main_v1339)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 28) rfl) :) e32
  have e56 : @Eq ((⟨Cert.KernelIdeal.S_, .i32⟩ : BufTy).Contents (Elt F)) (Φ₁ (Proc.devRef .tc Cert.KernelIdeal.main_c_417)) (Φ₂ (Proc.devRef .tc Cert.ReferenceIdeal.main_c_417)) := step0 (β := ((⟨Cert.KernelIdeal.S_, .i32⟩ : BufTy).Contents (Elt F))) (eq0 (at_ fa4 (i := 1) rfl) :) (eq0 (at_ fb1 (i := 29) rfl) :)
  have e57 : @Eq ((⟨Cert.KernelIdeal.S_, .i32⟩ : BufTy).Contents (Elt F)) (Φ₁ (Proc.devRef .tc Cert.KernelIdeal.main_c_418)) (Φ₂ (Proc.devRef .tc Cert.ReferenceIdeal.main_c_418)) := step0 (β := ((⟨Cert.KernelIdeal.S_, .i32⟩ : BufTy).Contents (Elt F))) (eq0 (at_ fa4 (i := 2) rfl) :) (eq0 (at_ fb1 (i := 30) rfl) :)
  have e58 : @Eq ((⟨Cert.KernelIdeal.S_, .i32⟩ : BufTy).Contents (Elt F)) (Φ₁ (Proc.devRef .tc Cert.KernelIdeal.main_call42_v0)) (Φ₂ (Proc.devRef .tc Cert.ReferenceIdeal.main_call42_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 31) rfl) :) e56
  have e59 : @Eq ((⟨Cert.KernelIdeal.S131072, .i32⟩ : BufTy).Contents (Elt F)) (Φ₁ (Proc.devRef .tc Cert.KernelIdeal.main_call42_v1)) (Φ₂ (Proc.devRef .tc Cert.ReferenceIdeal.main_call42_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 32) rfl) :) e58
  have e60 : @Eq ((⟨Cert.KernelIdeal.S131072, .i32⟩ : BufTy).Contents (Elt F)) (Φ₁ (Proc.devRef .tc Cert.KernelIdeal.main_call42_v2)) (Φ₂ (Proc.devRef .tc Cert.ReferenceIdeal.main_call42_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 33) rfl) :) e59 e55
  have e61 : @Eq ((⟨Cert.KernelIdeal.S_, .i32⟩ : BufTy).Contents (Elt F)) (Φ₁ (Proc.devRef .tc Cert.KernelIdeal.main_call42_v3)) (Φ₂ (Proc.devRef .tc Cert.ReferenceIdeal.main_call42_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 34) rfl) :) e57
  have e62 : @Eq ((⟨Cert.KernelIdeal.S131072, .i32⟩ : BufTy).Contents (Elt F)) (Φ₁ (Proc.devRef .tc Cert.KernelIdeal.main_call42_v4)) (Φ₂ (Proc.devRef .tc Cert.ReferenceIdeal.main_call42_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 35) rfl) :) e61
  have e63 : @Eq ((⟨Cert.KernelIdeal.S131072, .i32⟩ : BufTy).Contents (Elt F)) (Φ₁ (Proc.devRef .tc Cert.KernelIdeal.main_v1332)) (Φ₂ (Proc.devRef .tc Cert.ReferenceIdeal.main_v1340)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 36) rfl) :) e62 e60
  have e64 : @Eq ((⟨Cert.KernelIdeal.S_, .i32⟩ : BufTy).Contents (Elt F)) (Φ₁ (Proc.devRef .tc Cert.KernelIdeal.main_c_419)) (Φ₂ (Proc.devRef .tc Cert.ReferenceIdeal.main_c_419)) := step0 (β := ((⟨Cert.KernelIdeal.S_, .i32⟩ : BufTy).Contents (Elt F))) (eq0 (at_ fa6 (i := 0) rfl) :) (eq0 (at_ fb1 (i := 37) rfl) :)
  have e65 : @Eq ((⟨Cert.KernelIdeal.S131072, .i32⟩ : BufTy).Contents (Elt F)) (Φ₁ (Proc.devRef .tc Cert.KernelIdeal.main_v1333)) (Φ₂ (Proc.devRef .tc Cert.ReferenceIdeal.main_v1341)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 38) rfl) :) e64
  have e66 : @Eq ((⟨Cert.KernelIdeal.S131072, .i32⟩ : BufTy).Contents (Elt F)) (Φ₁ (Proc.devRef .tc Cert.KernelIdeal.main_v1334)) (Φ₂ (Proc.devRef .tc Cert.ReferenceIdeal.main_v1342)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 39) rfl) :) e63 e65
  have e67 : @Eq ((⟨Cert.KernelIdeal.S_, .i32⟩ : BufTy).Contents (Elt F)) (Φ₁ (Proc.devRef .tc Cert.KernelIdeal.main_c_420)) (Φ₂ (Proc.devRef .tc Cert.ReferenceIdeal.main_c_420)) := step0 (β := ((⟨Cert.KernelIdeal.S_, .i32⟩ : BufTy).Contents (Elt F))) (eq0 (at_ fa6 (i := 3) rfl) :) (eq0 (at_ fb1 (i := 40) rfl) :)
  have e68 : @Eq ((⟨Cert.KernelIdeal.S_, .i32⟩ : BufTy).Contents (Elt F)) (Φ₁ (Proc.devRef .tc Cert.KernelIdeal.main_c_421)) (Φ₂ (Proc.devRef .tc Cert.ReferenceIdeal.main_c_421)) := step0 (β := ((⟨Cert.KernelIdeal.S_, .i32⟩ : BufTy).Contents (Elt F))) (eq0 (at_ fa6 (i := 4) rfl) :) (eq0 (at_ fb1 (i := 41) rfl) :)
  have e69 : @Eq ((⟨Cert.KernelIdeal.S_, .i32⟩ : BufTy).Contents (Elt F)) (Φ₁ (Proc.devRef .tc Cert.KernelIdeal.main_call43_v0)) (Φ₂ (Proc.devRef .tc Cert.ReferenceIdeal.main_call43_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 42) rfl) :) e67
  have e70 : @Eq ((⟨Cert.KernelIdeal.S131072, .i32⟩ : BufTy).Contents (Elt F)) (Φ₁ (Proc.devRef .tc Cert.KernelIdeal.main_call43_v1)) (Φ₂ (Proc.devRef .tc Cert.ReferenceIdeal.main_call43_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 43) rfl) :) e69
  have e71 : @Eq ((⟨Cert.KernelIdeal.S131072, .i32⟩ : BufTy).Contents (Elt F)) (Φ₁ (Proc.devRef .tc Cert.KernelIdeal.main_call43_v2)) (Φ₂ (Proc.devRef .tc Cert.ReferenceIdeal.main_call43_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 44) rfl) :) e70 e66
  have e72 : @Eq ((⟨Cert.KernelIdeal.S_, .i32⟩ : BufTy).Contents (Elt F)) (Φ₁ (Proc.devRef .tc Cert.KernelIdeal.main_call43_v3)) (Φ₂ (Proc.devRef .tc Cert.ReferenceIdeal.main_call43_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 45) rfl) :) e68
  have e73 : @Eq ((⟨Cert.KernelIdeal.S131072, .i32⟩ : BufTy).Contents (Elt F)) (Φ₁ (Proc.devRef .tc Cert.KernelIdeal.main_call43_v4)) (Φ₂ (Proc.devRef .tc Cert.ReferenceIdeal.main_call43_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 46) rfl) :) e72
  have e74 : @Eq ((⟨Cert.KernelIdeal.S131072, .i32⟩ : BufTy).Contents (Elt F)) (Φ₁ (Proc.devRef .tc Cert.KernelIdeal.main_v1335)) (Φ₂ (Proc.devRef .tc Cert.ReferenceIdeal.main_v1343)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 47) rfl) :) e73 e71
  have e75 : @Eq ((⟨Cert.KernelIdeal.S_, .i32⟩ : BufTy).Contents (Elt F)) (Φ₁ (Proc.devRef .tc Cert.KernelIdeal.main_c_422)) (Φ₂ (Proc.devRef .tc Cert.ReferenceIdeal.main_c_422)) := step0 (β := ((⟨Cert.KernelIdeal.S_, .i32⟩ : BufTy).Contents (Elt F))) (eq0 (at_ fa8 (i := 0) rfl) :) (eq0 (at_ fb1 (i := 48) rfl) :)
  have e76 : @Eq ((⟨Cert.KernelIdeal.S131072, .i32⟩ : BufTy).Contents (Elt F)) (Φ₁ (Proc.devRef .tc Cert.KernelIdeal.main_v1336)) (Φ₂ (Proc.devRef .tc Cert.ReferenceIdeal.main_v1344)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 49) rfl) :) e75
  have e77 : @Eq ((⟨Cert.KernelIdeal.S131072, .i1⟩ : BufTy).Contents (Elt F)) (Φ₁ (Proc.devRef .tc Cert.KernelIdeal.main_v1337)) (Φ₂ (Proc.devRef .tc Cert.ReferenceIdeal.main_v1345)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 50) rfl) :) e63 e76
  have e78 : @Eq ((⟨Cert.KernelIdeal.S_, .i32⟩ : BufTy).Contents (Elt F)) (Φ₁ (Proc.devRef .tc Cert.KernelIdeal.main_c_423)) (Φ₂ (Proc.devRef .tc Cert.ReferenceIdeal.main_c_423)) := step0 (β := ((⟨Cert.KernelIdeal.S_, .i32⟩ : BufTy).Contents (Elt F))) (eq0 (at_ fa8 (i := 3) rfl) :) (eq0 (at_ fb1 (i := 51) rfl) :)
  have e79 : @Eq ((⟨Cert.KernelIdeal.S131072, .i32⟩ : BufTy).Contents (Elt F)) (Φ₁ (Proc.devRef .tc Cert.KernelIdeal.main_v1338)) (Φ₂ (Proc.devRef .tc Cert.ReferenceIdeal.main_v1346)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 52) rfl) :) e78
  have e80 : @Eq ((⟨Cert.KernelIdeal.S131072, .i32⟩ : BufTy).Contents (Elt F)) (Φ₁ (Proc.devRef .tc Cert.KernelIdeal.main_v1339)) (Φ₂ (Proc.devRef .tc Cert.ReferenceIdeal.main_v1347)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 53) rfl) :) e63 e79
  have e81 : @Eq ((⟨Cert.KernelIdeal.S131072, .i32⟩ : BufTy).Contents (Elt F)) (Φ₁ (Proc.devRef .tc Cert.KernelIdeal.main_v1340)) (Φ₂ (Proc.devRef .tc Cert.ReferenceIdeal.main_v1348)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 54) rfl) :) e77 e80 e63
  have e82 : @Eq ((⟨Cert.KernelIdeal.S_, .i32⟩ : BufTy).Contents (Elt F)) (Φ₁ (Proc.devRef .tc Cert.KernelIdeal.main_c_424)) (Φ₂ (Proc.devRef .tc Cert.ReferenceIdeal.main_c_424)) := step0 (β := ((⟨Cert.KernelIdeal.S_, .i32⟩ : BufTy).Contents (Elt F))) (eq0 (at_ fa8 (i := 7) rfl) :) (eq0 (at_ fb1 (i := 55) rfl) :)
  have e83 : @Eq ((⟨Cert.KernelIdeal.S131072, .i32⟩ : BufTy).Contents (Elt F)) (Φ₁ (Proc.devRef .tc Cert.KernelIdeal.main_v1341)) (Φ₂ (Proc.devRef .tc Cert.ReferenceIdeal.main_v1349)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 56) rfl) :) e82
  have e84 : @Eq ((⟨Cert.KernelIdeal.S131072, .i1⟩ : BufTy).Contents (Elt F)) (Φ₁ (Proc.devRef .tc Cert.KernelIdeal.main_v1342)) (Φ₂ (Proc.devRef .tc Cert.ReferenceIdeal.main_v1350)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 57) rfl) :) e43 e83
  have e85 : @Eq ((⟨Cert.KernelIdeal.S_, .i32⟩ : BufTy).Contents (Elt F)) (Φ₁ (Proc.devRef .tc Cert.KernelIdeal.main_c_425)) (Φ₂ (Proc.devRef .tc Cert.ReferenceIdeal.main_c_425)) := step0 (β := ((⟨Cert.KernelIdeal.S_, .i32⟩ : BufTy).Contents (Elt F))) (eq0 (at_ fa8 (i := 10) rfl) :) (eq0 (at_ fb1 (i := 58) rfl) :)
  have e86 : @Eq ((⟨Cert.KernelIdeal.S131072, .i32⟩ : BufTy).Contents (Elt F)) (Φ₁ (Proc.devRef .tc Cert.KernelIdeal.main_v1343)) (Φ₂ (Proc.devRef .tc Cert.ReferenceIdeal.main_v1351)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 59) rfl) :) e85
  have e87 : @Eq ((⟨Cert.KernelIdeal.S131072, .i32⟩ : BufTy).Contents (Elt F)) (Φ₁ (Proc.devRef .tc Cert.KernelIdeal.main_v1344)) (Φ₂ (Proc.devRef .tc Cert.ReferenceIdeal.main_v1352)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 60) rfl) :) e43 e86
  have e88 : @Eq ((⟨Cert.KernelIdeal.S131072, .i32⟩ : BufTy).Contents (Elt F)) (Φ₁ (Proc.devRef .tc Cert.KernelIdeal.main_v1345)) (Φ₂ (Proc.devRef .tc Cert.ReferenceIdeal.main_v1353)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 61) rfl) :) e84 e87 e43
  have e89 : @Eq ((⟨Cert.KernelIdeal.S131072x1, .i32⟩ : BufTy).Contents (Elt F)) (Φ₁ (Proc.devRef .tc Cert.KernelIdeal.main_v1346)) (Φ₂ (Proc.devRef .tc Cert.ReferenceIdeal.main_v1354)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 62) rfl) :) e81
  have e90 : @Eq ((⟨Cert.KernelIdeal.S131072x1, .i32⟩ : BufTy).Contents (Elt F)) (Φ₁ (Proc.devRef .tc Cert.KernelIdeal.main_v1347)) (Φ₂ (Proc.devRef .tc Cert.ReferenceIdeal.main_v1355)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 63) rfl) :) e88
  have e91 : @Eq ((⟨Cert.KernelIdeal.S131072x2, .i32⟩ : BufTy).Contents (Elt F)) (Φ₁ (Proc.devRef .tc Cert.KernelIdeal.main_v1348)) (Φ₂ (Proc.devRef .tc Cert.ReferenceIdeal.main_v1356)) := by rw [eq2 (at_ fa8 (i := 16) rfl), eq2 (at_ fb1 (i := 64) rfl), e89, e90] <;> rfl
  have e92 : @Eq ((⟨Cert.KernelIdeal.S32x131072, .f32⟩ : BufTy).Contents (Elt F)) (Φ₁ (Proc.devRef .tc Cert.KernelIdeal.main_v1349)) (Φ₂ (Proc.devRef .tc Cert.ReferenceIdeal.main_v1357)) := by rw [eq2 (at_ fa8 (i := 17) rfl), eq2 (at_ fb1 (i := 65) rfl), x2, e91] <;> rfl
  have e93 : @Eq ((⟨Cert.KernelIdeal.S_, .i32⟩ : BufTy).Contents (Elt F)) (Φ₁ (Proc.devRef .tc Cert.KernelIdeal.main_c_426)) (Φ₂ (Proc.devRef .tc Cert.ReferenceIdeal.main_c_426)) := step0 (β := ((⟨Cert.KernelIdeal.S_, .i32⟩ : BufTy).Contents (Elt F))) (eq0 (at_ fa8 (i := 18) rfl) :) (eq0 (at_ fb1 (i := 66) rfl) :)
  have e94 : @Eq ((⟨Cert.KernelIdeal.S131072, .i32⟩ : BufTy).Contents (Elt F)) (Φ₁ (Proc.devRef .tc Cert.KernelIdeal.main_v1350)) (Φ₂ (Proc.devRef .tc Cert.ReferenceIdeal.main_v1358)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 67) rfl) :) e93
  have e95 : @Eq ((⟨Cert.KernelIdeal.S131072, .i1⟩ : BufTy).Contents (Elt F)) (Φ₁ (Proc.devRef .tc Cert.KernelIdeal.main_v1351)) (Φ₂ (Proc.devRef .tc Cert.ReferenceIdeal.main_v1359)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 68) rfl) :) e63 e94
  have e96 : @Eq ((⟨Cert.KernelIdeal.S_, .i32⟩ : BufTy).Contents (Elt F)) (Φ₁ (Proc.devRef .tc Cert.KernelIdeal.main_c_427)) (Φ₂ (Proc.devRef .tc Cert.ReferenceIdeal.main_c_427)) := step0 (β := ((⟨Cert.KernelIdeal.S_, .i32⟩ : BufTy).Contents (Elt F))) (eq0 (at_ fa8 (i := 21) rfl) :) (eq0 (at_ fb1 (i := 69) rfl) :)
  have e97 : @Eq ((⟨Cert.KernelIdeal.S131072, .i32⟩ : BufTy).Contents (Elt F)) (Φ₁ (Proc.devRef .tc Cert.KernelIdeal.main_v1352)) (Φ₂ (Proc.devRef .tc Cert.ReferenceIdeal.main_v1360)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 70) rfl) :) e96
  have e98 : @Eq ((⟨Cert.KernelIdeal.S131072, .i32⟩ : BufTy).Contents (Elt F)) (Φ₁ (Proc.devRef .tc Cert.KernelIdeal.main_v1353)) (Φ₂ (Proc.devRef .tc Cert.ReferenceIdeal.main_v1361)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 71) rfl) :) e63 e97
  have e99 : @Eq ((⟨Cert.KernelIdeal.S131072, .i32⟩ : BufTy).Contents (Elt F)) (Φ₁ (Proc.devRef .tc Cert.KernelIdeal.main_v1354)) (Φ₂ (Proc.devRef .tc Cert.ReferenceIdeal.main_v1362)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 72) rfl) :) e95 e98 e63
  have e100 : @Eq ((⟨Cert.KernelIdeal.S_, .i32⟩ : BufTy).Contents (Elt F)) (Φ₁ (Proc.devRef .tc Cert.KernelIdeal.main_c_428)) (Φ₂ (Proc.devRef .tc Cert.ReferenceIdeal.main_c_428)) := step0 (β := ((⟨Cert.KernelIdeal.S_, .i32⟩ : BufTy).Contents (Elt F))) (eq0 (at_ fa8 (i := 25) rfl) :) (eq0 (at_ fb1 (i := 73) rfl) :)
  have e101 : @Eq ((⟨Cert.KernelIdeal.S131072, .i32⟩ : BufTy).Contents (Elt F)) (Φ₁ (Proc.devRef .tc Cert.KernelIdeal.main_v1355)) (Φ₂ (Proc.devRef .tc Cert.ReferenceIdeal.main_v1363)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 74) rfl) :) e100
  have e102 : @Eq ((⟨Cert.KernelIdeal.S131072, .i1⟩ : BufTy).Contents (Elt F)) (Φ₁ (Proc.devRef .tc Cert.KernelIdeal.main_v1356)) (Φ₂ (Proc.devRef .tc Cert.ReferenceIdeal.main_v1364)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 75) rfl) :) e54 e101
  have e103 : @Eq ((⟨Cert.KernelIdeal.S_, .i32⟩ : BufTy).Contents (Elt F)) (Φ₁ (Proc.devRef .tc Cert.KernelIdeal.main_c_429)) (Φ₂ (Proc.devRef .tc Cert.ReferenceIdeal.main_c_429)) := step0 (β := ((⟨Cert.KernelIdeal.S_, .i32⟩ : BufTy).Contents (Elt F))) (eq0 (at_ fa8 (i := 28) rfl) :) (eq0 (at_ fb1 (i := 76) rfl) :)
  have e104 : @Eq ((⟨Cert.KernelIdeal.S131072, .i32⟩ : BufTy).Contents (Elt F)) (Φ₁ (Proc.devRef .tc Cert.KernelIdeal.main_v1357)) (Φ₂ (Proc.devRef .tc Cert.ReferenceIdeal.main_v1365)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 77) rfl) :) e103
  have e105 : @Eq ((⟨Cert.KernelIdeal.S131072, .i32⟩ : BufTy).Contents (Elt F)) (Φ₁ (Proc.devRef .tc Cert.KernelIdeal.main_v1358)) (Φ₂ (Proc.devRef .tc Cert.ReferenceIdeal.main_v1366)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 78) rfl) :) e54 e104
  have e106 : @Eq ((⟨Cert.KernelIdeal.S131072, .i32⟩ : BufTy).Contents (Elt F)) (Φ₁ (Proc.devRef .tc Cert.KernelIdeal.main_v1359)) (Φ₂ (Proc.devRef .tc Cert.ReferenceIdeal.main_v1367)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 79) rfl) :) e102 e105 e54
  have e107 : @Eq ((⟨Cert.KernelIdeal.S131072x1, .i32⟩ : BufTy).Contents (Elt F)) (Φ₁ (Proc.devRef .tc Cert.KernelIdeal.main_v1360)) (Φ₂ (Proc.devRef .tc Cert.ReferenceIdeal.main_v1368)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 0) rfl) :) e99
  have e108 : @Eq ((⟨Cert.KernelIdeal.S131072x1, .i32⟩ : BufTy).Contents (Elt F)) (Φ₁ (Proc.devRef .tc Cert.KernelIdeal.main_v1361)) (Φ₂ (Proc.devRef .tc Cert.ReferenceIdeal.main_v1369)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 1) rfl) :) e106
  have e109 : @Eq ((⟨Cert.KernelIdeal.S131072x2, .i32⟩ : BufTy).Contents (Elt F)) (Φ₁ (Proc.devRef .tc Cert.KernelIdeal.main_v1362)) (Φ₂ (Proc.devRef .tc Cert.ReferenceIdeal.main_v1370)) := by rw [eq2 (at_ fa8 (i := 34) rfl), eq2 (at_ fb2 (i := 2) rfl), e107, e108] <;> rfl
  have e110 : @Eq ((⟨Cert.KernelIdeal.S32x131072, .f32⟩ : BufTy).Contents (Elt F)) (Φ₁ (Proc.devRef .tc Cert.KernelIdeal.main_v1363)) (Φ₂ (Proc.devRef .tc Cert.ReferenceIdeal.main_v1371)) := by rw [eq2 (at_ fa8 (i := 35) rfl), eq2 (at_ fb2 (i := 3) rfl), x2, e109] <;> rfl
  have e111 : @Eq ((⟨Cert.KernelIdeal.S_, .i32⟩ : BufTy).Contents (Elt F)) (Φ₁ (Proc.devRef .tc Cert.KernelIdeal.main_c_430)) (Φ₂ (Proc.devRef .tc Cert.ReferenceIdeal.main_c_430)) := step0 (β := ((⟨Cert.KernelIdeal.S_, .i32⟩ : BufTy).Contents (Elt F))) (eq0 (at_ fa8 (i := 36) rfl) :) (eq0 (at_ fb2 (i := 4) rfl) :)
  have e112 : @Eq ((⟨Cert.KernelIdeal.S131072, .i32⟩ : BufTy).Contents (Elt F)) (Φ₁ (Proc.devRef .tc Cert.KernelIdeal.main_v1364)) (Φ₂ (Proc.devRef .tc Cert.ReferenceIdeal.main_v1372)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 5) rfl) :) e111
  have e113 : @Eq ((⟨Cert.KernelIdeal.S131072, .i1⟩ : BufTy).Contents (Elt F)) (Φ₁ (Proc.devRef .tc Cert.KernelIdeal.main_v1365)) (Φ₂ (Proc.devRef .tc Cert.ReferenceIdeal.main_v1373)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 6) rfl) :) e74 e112
  have e114 : @Eq ((⟨Cert.KernelIdeal.S_, .i32⟩ : BufTy).Contents (Elt F)) (Φ₁ (Proc.devRef .tc Cert.KernelIdeal.main_c_431)) (Φ₂ (Proc.devRef .tc Cert.ReferenceIdeal.main_c_431)) := step0 (β := ((⟨Cert.KernelIdeal.S_, .i32⟩ : BufTy).Contents (Elt F))) (eq0 (at_ fa8 (i := 39) rfl) :) (eq0 (at_ fb2 (i := 7) rfl) :)
  have e115 : @Eq ((⟨Cert.KernelIdeal.S131072, .i32⟩ : BufTy).Contents (Elt F)) (Φ₁ (Proc.devRef .tc Cert.KernelIdeal.main_v1366)) (Φ₂ (Proc.devRef .tc Cert.ReferenceIdeal.main_v1374)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 8) rfl) :) e114
  have e116 : @Eq ((⟨Cert.KernelIdeal.S131072, .i32⟩ : BufTy).Contents (Elt F)) (Φ₁ (Proc.devRef .tc Cert.KernelIdeal.main_v1367)) (Φ₂ (Proc.devRef .tc Cert.ReferenceIdeal.main_v1375)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 9) rfl) :) e74 e115
  have e117 : @Eq ((⟨Cert.KernelIdeal.S131072, .i32⟩ : BufTy).Contents (Elt F)) (Φ₁ (Proc.devRef .tc Cert.KernelIdeal.main_v1368)) (Φ₂ (Proc.devRef .tc Cert.ReferenceIdeal.main_v1376)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 10) rfl) :) e113 e116 e74
  have e118 : @Eq ((⟨Cert.KernelIdeal.S_, .i32⟩ : BufTy).Contents (Elt F)) (Φ₁ (Proc.devRef .tc Cert.KernelIdeal.main_c_432)) (Φ₂ (Proc.devRef .tc Cert.ReferenceIdeal.main_c_432)) := step0 (β := ((⟨Cert.KernelIdeal.S_, .i32⟩ : BufTy).Contents (Elt F))) (eq0 (at_ fa8 (i := 43) rfl) :) (eq0 (at_ fb2 (i := 11) rfl) :)
  have e119 : @Eq ((⟨Cert.KernelIdeal.S131072, .i32⟩ : BufTy).Contents (Elt F)) (Φ₁ (Proc.devRef .tc Cert.KernelIdeal.main_v1369)) (Φ₂ (Proc.devRef .tc Cert.ReferenceIdeal.main_v1377)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 12) rfl) :) e118
  have e120 : @Eq ((⟨Cert.KernelIdeal.S131072, .i1⟩ : BufTy).Contents (Elt F)) (Φ₁ (Proc.devRef .tc Cert.KernelIdeal.main_v1370)) (Φ₂ (Proc.devRef .tc Cert.ReferenceIdeal.main_v1378)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 13) rfl) :) e43 e119
  have e121 : @Eq ((⟨Cert.KernelIdeal.S_, .i32⟩ : BufTy).Contents (Elt F)) (Φ₁ (Proc.devRef .tc Cert.KernelIdeal.main_c_433)) (Φ₂ (Proc.devRef .tc Cert.ReferenceIdeal.main_c_433)) := step0 (β := ((⟨Cert.KernelIdeal.S_, .i32⟩ : BufTy).Contents (Elt F))) (eq0 (at_ fa8 (i := 46) rfl) :) (eq0 (at_ fb2 (i := 14) rfl) :)
  have e122 : @Eq ((⟨Cert.KernelIdeal.S131072, .i32⟩ : BufTy).Contents (Elt F)) (Φ₁ (Proc.devRef .tc Cert.KernelIdeal.main_v1371)) (Φ₂ (Proc.devRef .tc Cert.ReferenceIdeal.main_v1379)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 15) rfl) :) e121
  have e123 : @Eq ((⟨Cert.KernelIdeal.S131072, .i32⟩ : BufTy).Contents (Elt F)) (Φ₁ (Proc.devRef .tc Cert.KernelIdeal.main_v1372)) (Φ₂ (Proc.devRef .tc Cert.ReferenceIdeal.main_v1380)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 16) rfl) :) e43 e122
  have e124 : @Eq ((⟨Cert.KernelIdeal.S131072, .i32⟩ : BufTy).Contents (Elt F)) (Φ₁ (Proc.devRef .tc Cert.KernelIdeal.main_v1373)) (Φ₂ (Proc.devRef .tc Cert.ReferenceIdeal.main_v1381)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 17) rfl) :) e120 e123 e43
  have e125 : @Eq ((⟨Cert.KernelIdeal.S131072x1, .i32⟩ : BufTy).Contents (Elt F)) (Φ₁ (Proc.devRef .tc Cert.KernelIdeal.main_v1374)) (Φ₂ (Proc.devRef .tc Cert.ReferenceIdeal.main_v1382)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 18) rfl) :) e117
  have e126 : @Eq ((⟨Cert.KernelIdeal.S131072x1, .i32⟩ : BufTy).Contents (Elt F)) (Φ₁ (Proc.devRef .tc Cert.KernelIdeal.main_v1375)) (Φ₂ (Proc.devRef .tc Cert.ReferenceIdeal.main_v1383)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 19) rfl) :) e124
  have e127 : @Eq ((⟨Cert.KernelIdeal.S131072x2, .i32⟩ : BufTy).Contents (Elt F)) (Φ₁ (Proc.devRef .tc Cert.KernelIdeal.main_v1376)) (Φ₂ (Proc.devRef .tc Cert.ReferenceIdeal.main_v1384)) := by rw [eq2 (at_ fa8 (i := 52) rfl), eq2 (at_ fb2 (i := 20) rfl), e125, e126] <;> rfl
  have e128 : @Eq ((⟨Cert.KernelIdeal.S32x131072, .f32⟩ : BufTy).Contents (Elt F)) (Φ₁ (Proc.devRef .tc Cert.KernelIdeal.main_v1377)) (Φ₂ (Proc.devRef .tc Cert.ReferenceIdeal.main_v1385)) := by rw [eq2 (at_ fa8 (i := 53) rfl), eq2 (at_ fb2 (i := 21) rfl), x2, e127] <;> rfl
  have e129 : @Eq ((⟨Cert.KernelIdeal.S_, .i32⟩ : BufTy).Contents (Elt F)) (Φ₁ (Proc.devRef .tc Cert.KernelIdeal.main_c_434)) (Φ₂ (Proc.devRef .tc Cert.ReferenceIdeal.main_c_434)) := step0 (β := ((⟨Cert.KernelIdeal.S_, .i32⟩ : BufTy).Contents (Elt F))) (eq0 (at_ fa8 (i := 54) rfl) :) (eq0 (at_ fb2 (i := 22) rfl) :)
  have e130 : @Eq ((⟨Cert.KernelIdeal.S131072, .i32⟩ : BufTy).Contents (Elt F)) (Φ₁ (Proc.devRef .tc Cert.KernelIdeal.main_v1378)) (Φ₂ (Proc.devRef .tc Cert.ReferenceIdeal.main_v1386)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 23) rfl) :) e129
  have e131 : @Eq ((⟨Cert.KernelIdeal.S131072, .i1⟩ : BufTy).Contents (Elt F)) (Φ₁ (Proc.devRef .tc Cert.KernelIdeal.main_v1379)) (Φ₂ (Proc.devRef .tc Cert.ReferenceIdeal.main_v1387)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 24) rfl) :) e74 e130
  have e132 : @Eq ((⟨Cert.KernelIdeal.S_, .i32⟩ : BufTy).Contents (Elt F)) (Φ₁ (Proc.devRef .tc Cert.KernelIdeal.main_c_435)) (Φ₂ (Proc.devRef .tc Cert.ReferenceIdeal.main_c_435)) := step0 (β := ((⟨Cert.KernelIdeal.S_, .i32⟩ : BufTy).Contents (Elt F))) (eq0 (at_ fa8 (i := 57) rfl) :) (eq0 (at_ fb2 (i := 25) rfl) :)
  have e133 : @Eq ((⟨Cert.KernelIdeal.S131072, .i32⟩ : BufTy).Contents (Elt F)) (Φ₁ (Proc.devRef .tc Cert.KernelIdeal.main_v1380)) (Φ₂ (Proc.devRef .tc Cert.ReferenceIdeal.main_v1388)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 26) rfl) :) e132
  have e134 : @Eq ((⟨Cert.KernelIdeal.S131072, .i32⟩ : BufTy).Contents (Elt F)) (Φ₁ (Proc.devRef .tc Cert.KernelIdeal.main_v1381)) (Φ₂ (Proc.devRef .tc Cert.ReferenceIdeal.main_v1389)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 27) rfl) :) e74 e133
  have e135 : @Eq ((⟨Cert.KernelIdeal.S131072, .i32⟩ : BufTy).Contents (Elt F)) (Φ₁ (Proc.devRef .tc Cert.KernelIdeal.main_v1382)) (Φ₂ (Proc.devRef .tc Cert.ReferenceIdeal.main_v1390)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 28) rfl) :) e131 e134 e74
  have e136 : @Eq ((⟨Cert.KernelIdeal.S_, .i32⟩ : BufTy).Contents (Elt F)) (Φ₁ (Proc.devRef .tc Cert.KernelIdeal.main_c_436)) (Φ₂ (Proc.devRef .tc Cert.ReferenceIdeal.main_c_436)) := step0 (β := ((⟨Cert.KernelIdeal.S_, .i32⟩ : BufTy).Contents (Elt F))) (eq0 (at_ fa8 (i := 61) rfl) :) (eq0 (at_ fb2 (i := 29) rfl) :)
  have e137 : @Eq ((⟨Cert.KernelIdeal.S131072, .i32⟩ : BufTy).Contents (Elt F)) (Φ₁ (Proc.devRef .tc Cert.KernelIdeal.main_v1383)) (Φ₂ (Proc.devRef .tc Cert.ReferenceIdeal.main_v1391)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 30) rfl) :) e136
  have e138 : @Eq ((⟨Cert.KernelIdeal.S131072, .i1⟩ : BufTy).Contents (Elt F)) (Φ₁ (Proc.devRef .tc Cert.KernelIdeal.main_v1384)) (Φ₂ (Proc.devRef .tc Cert.ReferenceIdeal.main_v1392)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 31) rfl) :) e54 e137
  have e139 : @Eq ((⟨Cert.KernelIdeal.S_, .i32⟩ : BufTy).Contents (Elt F)) (Φ₁ (Proc.devRef .tc Cert.KernelIdeal.main_c_437)) (Φ₂ (Proc.devRef .tc Cert.ReferenceIdeal.main_c_437)) := step0 (β := ((⟨Cert.KernelIdeal.S_, .i32⟩ : BufTy).Contents (Elt F))) (eq0 (at_ fa8 (i := 64) rfl) :) (eq0 (at_ fb2 (i := 32) rfl) :)
  have e140 : @Eq ((⟨Cert.KernelIdeal.S131072, .i32⟩ : BufTy).Contents (Elt F)) (Φ₁ (Proc.devRef .tc Cert.KernelIdeal.main_v1385)) (Φ₂ (Proc.devRef .tc Cert.ReferenceIdeal.main_v1393)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 33) rfl) :) e139
  have e141 : @Eq ((⟨Cert.KernelIdeal.S131072, .i32⟩ : BufTy).Contents (Elt F)) (Φ₁ (Proc.devRef .tc Cert.KernelIdeal.main_v1386)) (Φ₂ (Proc.devRef .tc Cert.ReferenceIdeal.main_v1394)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 34) rfl) :) e54 e140
  have e142 : @Eq ((⟨Cert.KernelIdeal.S131072, .i32⟩ : BufTy).Contents (Elt F)) (Φ₁ (Proc.devRef .tc Cert.KernelIdeal.main_v1387)) (Φ₂ (Proc.devRef .tc Cert.ReferenceIdeal.main_v1395)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 35) rfl) :) e138 e141 e54
  have e143 : @Eq ((⟨Cert.KernelIdeal.S131072x1, .i32⟩ : BufTy).Contents (Elt F)) (Φ₁ (Proc.devRef .tc Cert.KernelIdeal.main_v1388)) (Φ₂ (Proc.devRef .tc Cert.ReferenceIdeal.main_v1396)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 36) rfl) :) e135
  have e144 : @Eq ((⟨Cert.KernelIdeal.S131072x1, .i32⟩ : BufTy).Contents (Elt F)) (Φ₁ (Proc.devRef .tc Cert.KernelIdeal.main_v1389)) (Φ₂ (Proc.devRef .tc Cert.ReferenceIdeal.main_v1397)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 37) rfl) :) e142
  have e145 : @Eq ((⟨Cert.KernelIdeal.S131072x2, .i32⟩ : BufTy).Contents (Elt F)) (Φ₁ (Proc.devRef .tc Cert.KernelIdeal.main_v1390)) (Φ₂ (Proc.devRef .tc Cert.ReferenceIdeal.main_v1398)) := by rw [eq2 (at_ fa8 (i := 70) rfl), eq2 (at_ fb2 (i := 38) rfl), e143, e144] <;> rfl
  have e146 : @Eq ((⟨Cert.KernelIdeal.S32x131072, .f32⟩ : BufTy).Contents (Elt F)) (Φ₁ (Proc.devRef .tc Cert.KernelIdeal.main_v1391)) (Φ₂ (Proc.devRef .tc Cert.ReferenceIdeal.main_v1399)) := by rw [eq2 (at_ fa8 (i := 71) rfl), eq2 (at_ fb2 (i := 39) rfl), x2, e145] <;> rfl
  have e147 : @Eq ((⟨Cert.KernelIdeal.S_, .f32⟩ : BufTy).Contents (Elt F)) (Φ₁ (Proc.devRef .tc Cert.KernelIdeal.main_cst_438)) (Φ₂ (Proc.devRef .tc Cert.ReferenceIdeal.main_cst_438)) := step0 (β := ((⟨Cert.KernelIdeal.S_, .f32⟩ : BufTy).Contents (Elt F))) (eq0 (at_ fa8 (i := 72) rfl) :) (eq0 (at_ fb2 (i := 40) rfl) :)
  have e148 : @Eq ((⟨Cert.KernelIdeal.S131072, .f32⟩ : BufTy).Contents (Elt F)) (Φ₁ (Proc.devRef .tc Cert.KernelIdeal.main_v1392)) (Φ₂ (Proc.devRef .tc Cert.ReferenceIdeal.main_v1400)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 41) rfl) :) e147
  have e149 : @Eq ((⟨Cert.KernelIdeal.S131072, .f32⟩ : BufTy).Contents (Elt F)) (Φ₁ (Proc.devRef .tc Cert.KernelIdeal.main_v1393)) (Φ₂ (Proc.devRef .tc Cert.ReferenceIdeal.main_v1401)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 42) rfl) :) e148 e33
  have e150 : @Eq ((⟨Cert.KernelIdeal.S1x131072, .f32⟩ : BufTy).Contents (Elt F)) (Φ₁ (Proc.devRef .tc Cert.KernelIdeal.main_v1394)) (Φ₂ (Proc.devRef .tc Cert.ReferenceIdeal.main_v1402)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 43) rfl) :) e149
  have e151 : @Eq ((⟨Cert.KernelIdeal.S32x131072, .f32⟩ : BufTy).Contents (Elt F)) (Φ₁ (Proc.devRef .tc Cert.KernelIdeal.main_v1395)) (Φ₂ (Proc.devRef .tc Cert.ReferenceIdeal.main_v1403)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 44) rfl) :) e150
  have e152 : @Eq ((⟨Cert.KernelIdeal.S32x131072, .f32⟩ : BufTy).Contents (Elt F)) (Φ₁ (Proc.devRef .tc Cert.KernelIdeal.main_v1396)) (Φ₂ (Proc.devRef .tc Cert.ReferenceIdeal.main_v1404)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 45) rfl) :) e92 e151
  have e153 : @Eq ((⟨Cert.KernelIdeal.S_, .f32⟩ : BufTy).Contents (Elt F)) (Φ₁ (Proc.devRef .tc Cert.KernelIdeal.main_cst_439)) (Φ₂ (Proc.devRef .tc Cert.ReferenceIdeal.main_cst_439)) := step0 (β := ((⟨Cert.KernelIdeal.S_, .f32⟩ : BufTy).Contents (Elt F))) (eq0 (at_ fa8 (i := 78) rfl) :) (eq0 (at_ fb2 (i := 46) rfl) :)
  have e154 : @Eq ((⟨Cert.KernelIdeal.S131072, .f32⟩ : BufTy).Contents (Elt F)) (Φ₁ (Proc.devRef .tc Cert.KernelIdeal.main_v1397)) (Φ₂ (Proc.devRef .tc Cert.ReferenceIdeal.main_v1405)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 47) rfl) :) e153
  have e155 : @Eq ((⟨Cert.KernelIdeal.S131072, .f32⟩ : BufTy).Contents (Elt F)) (Φ₁ (Proc.devRef .tc Cert.KernelIdeal.main_v1398)) (Φ₂ (Proc.devRef .tc Cert.ReferenceIdeal.main_v1406)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 48) rfl) :) e154 e34
  have e156 : @Eq ((⟨Cert.KernelIdeal.S1x131072, .f32⟩ : BufTy).Contents (Elt F)) (Φ₁ (Proc.devRef .tc Cert.KernelIdeal.main_v1399)) (Φ₂ (Proc.devRef .tc Cert.ReferenceIdeal.main_v1407)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 49) rfl) :) e155
  have e157 : @Eq ((⟨Cert.KernelIdeal.S32x131072, .f32⟩ : BufTy).Contents (Elt F)) (Φ₁ (Proc.devRef .tc Cert.KernelIdeal.main_v1400)) (Φ₂ (Proc.devRef .tc Cert.ReferenceIdeal.main_v1408)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 50) rfl) :) e156
  have e158 : @Eq ((⟨Cert.KernelIdeal.S32x131072, .f32⟩ : BufTy).Contents (Elt F)) (Φ₁ (Proc.devRef .tc Cert.KernelIdeal.main_v1401)) (Φ₂ (Proc.devRef .tc Cert.ReferenceIdeal.main_v1409)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 51) rfl) :) e152 e157
  have e159 : @Eq ((⟨Cert.KernelIdeal.S1x131072, .f32⟩ : BufTy).Contents (Elt F)) (Φ₁ (Proc.devRef .tc Cert.KernelIdeal.main_v1402)) (Φ₂ (Proc.devRef .tc Cert.ReferenceIdeal.main_v1410)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 52) rfl) :) e33
  have e160 : @Eq ((⟨Cert.KernelIdeal.S32x131072, .f32⟩ : BufTy).Contents (Elt F)) (Φ₁ (Proc.devRef .tc Cert.KernelIdeal.main_v1403)) (Φ₂ (Proc.devRef .tc Cert.ReferenceIdeal.main_v1411)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 53) rfl) :) e159
  have e161 : @Eq ((⟨Cert.KernelIdeal.S32x131072, .f32⟩ : BufTy).Contents (Elt F)) (Φ₁ (Proc.devRef .tc Cert.KernelIdeal.main_v1404)) (Φ₂ (Proc.devRef .tc Cert.ReferenceIdeal.main_v1412)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 54) rfl) :) e110 e160
  have e162 : @Eq ((⟨Cert.KernelIdeal.S_, .f32⟩ : BufTy).Contents (Elt F)) (Φ₁ (Proc.devRef .tc Cert.KernelIdeal.main_cst_440)) (Φ₂ (Proc.devRef .tc Cert.ReferenceIdeal.main_cst_440)) := step0 (β := ((⟨Cert.KernelIdeal.S_, .f32⟩ : BufTy).Contents (Elt F))) (eq0 (at_ fa8 (i := 87) rfl) :) (eq0 (at_ fb2 (i := 55) rfl) :)
  have e163 : @Eq ((⟨Cert.KernelIdeal.S131072, .f32⟩ : BufTy).Contents (Elt F)) (Φ₁ (Proc.devRef .tc Cert.KernelIdeal.main_v1405)) (Φ₂ (Proc.devRef .tc Cert.ReferenceIdeal.main_v1413)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 56) rfl) :) e162
  have e164 : @Eq ((⟨Cert.KernelIdeal.S131072, .f32⟩ : BufTy).Contents (Elt F)) (Φ₁ (Proc.devRef .tc Cert.KernelIdeal.main_v1406)) (Φ₂ (Proc.devRef .tc Cert.ReferenceIdeal.main_v1414)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 57) rfl) :) e163 e34
  have e165 : @Eq ((⟨Cert.KernelIdeal.S1x131072, .f32⟩ : BufTy).Contents (Elt F)) (Φ₁ (Proc.devRef .tc Cert.KernelIdeal.main_v1407)) (Φ₂ (Proc.devRef .tc Cert.ReferenceIdeal.main_v1415)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 58) rfl) :) e164
  have e166 : @Eq ((⟨Cert.KernelIdeal.S32x131072, .f32⟩ : BufTy).Contents (Elt F)) (Φ₁ (Proc.devRef .tc Cert.KernelIdeal.main_v1408)) (Φ₂ (Proc.devRef .tc Cert.ReferenceIdeal.main_v1416)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 59) rfl) :) e165
  have e167 : @Eq ((⟨Cert.KernelIdeal.S32x131072, .f32⟩ : BufTy).Contents (Elt F)) (Φ₁ (Proc.devRef .tc Cert.KernelIdeal.main_v1409)) (Φ₂ (Proc.devRef .tc Cert.ReferenceIdeal.main_v1417)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 0) rfl) :) e161 e166
  have e168 : @Eq ((⟨Cert.KernelIdeal.S32x131072, .f32⟩ : BufTy).Contents (Elt F)) (Φ₁ (Proc.devRef .tc Cert.KernelIdeal.main_v1410)) (Φ₂ (Proc.devRef .tc Cert.ReferenceIdeal.main_v1418)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 1) rfl) :) e158 e167
  have e169 : @Eq ((⟨Cert.KernelIdeal.S_, .f32⟩ : BufTy).Contents (Elt F)) (Φ₁ (Proc.devRef .tc Cert.KernelIdeal.main_cst_441)) (Φ₂ (Proc.devRef .tc Cert.ReferenceIdeal.main_cst_441)) := step0 (β := ((⟨Cert.KernelIdeal.S_, .f32⟩ : BufTy).Contents (Elt F))) (eq0 (at_ fa8 (i := 94) rfl) :) (eq0 (at_ fb3 (i := 2) rfl) :)
  have e170 : @Eq ((⟨Cert.KernelIdeal.S131072, .f32⟩ : BufTy).Contents (Elt F)) (Φ₁ (Proc.devRef .tc Cert.KernelIdeal.main_v1411)) (Φ₂ (Proc.devRef .tc Cert.ReferenceIdeal.main_v1419)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 3) rfl) :) e169
  have e171 : @Eq ((⟨Cert.KernelIdeal.S131072, .f32⟩ : BufTy).Contents (Elt F)) (Φ₁ (Proc.devRef .tc Cert.KernelIdeal.main_v1412)) (Φ₂ (Proc.devRef .tc Cert.ReferenceIdeal.main_v1420)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 4) rfl) :) e170 e33
  have e172 : @Eq ((⟨Cert.KernelIdeal.S1x131072, .f32⟩ : BufTy).Contents (Elt F)) (Φ₁ (Proc.devRef .tc Cert.KernelIdeal.main_v1413)) (Φ₂ (Proc.devRef .tc Cert.ReferenceIdeal.main_v1421)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 5) rfl) :) e171
  have e173 : @Eq ((⟨Cert.KernelIdeal.S32x131072, .f32⟩ : BufTy).Contents (Elt F)) (Φ₁ (Proc.devRef .tc Cert.KernelIdeal.main_v1414)) (Φ₂ (Proc.devRef .tc Cert.ReferenceIdeal.main_v1422)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 6) rfl) :) e172
  have e174 : @Eq ((⟨Cert.KernelIdeal.S32x131072, .f32⟩ : BufTy).Contents (Elt F)) (Φ₁ (Proc.devRef .tc Cert.KernelIdeal.main_v1415)) (Φ₂ (Proc.devRef .tc Cert.ReferenceIdeal.main_v1423)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 7) rfl) :) e128 e173
  have e175 : @Eq ((⟨Cert.KernelIdeal.S1x131072, .f32⟩ : BufTy).Contents (Elt F)) (Φ₁ (Proc.devRef .tc Cert.KernelIdeal.main_v1416)) (Φ₂ (Proc.devRef .tc Cert.ReferenceIdeal.main_v1424)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 8) rfl) :) e34
  have e176 : @Eq ((⟨Cert.KernelIdeal.S32x131072, .f32⟩ : BufTy).Contents (Elt F)) (Φ₁ (Proc.devRef .tc Cert.KernelIdeal.main_v1417)) (Φ₂ (Proc.devRef .tc Cert.ReferenceIdeal.main_v1425)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 9) rfl) :) e175
  have e177 : @Eq ((⟨Cert.KernelIdeal.S32x131072, .f32⟩ : BufTy).Contents (Elt F)) (Φ₁ (Proc.devRef .tc Cert.KernelIdeal.main_v1418)) (Φ₂ (Proc.devRef .tc Cert.ReferenceIdeal.main_v1426)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 10) rfl) :) e174 e176
  have e178 : @Eq ((⟨Cert.KernelIdeal.S32x131072, .f32⟩ : BufTy).Contents (Elt F)) (Φ₁ (Proc.devRef .tc Cert.KernelIdeal.main_v1419)) (Φ₂ (Proc.devRef .tc Cert.ReferenceIdeal.main_v1427)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 11) rfl) :) e168 e177
  have e179 : @Eq ((⟨Cert.KernelIdeal.S1x131072, .f32⟩ : BufTy).Contents (Elt F)) (Φ₁ (Proc.devRef .tc Cert.KernelIdeal.main_v1420)) (Φ₂ (Proc.devRef .tc Cert.ReferenceIdeal.main_v1428)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 12) rfl) :) e33
  have e180 : @Eq ((⟨Cert.KernelIdeal.S32x131072, .f32⟩ : BufTy).Contents (Elt F)) (Φ₁ (Proc.devRef .tc Cert.KernelIdeal.main_v1421)) (Φ₂ (Proc.devRef .tc Cert.ReferenceIdeal.main_v1429)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 13) rfl) :) e179
  have e181 : @Eq ((⟨Cert.KernelIdeal.S32x131072, .f32⟩ : BufTy).Contents (Elt F)) (Φ₁ (Proc.devRef .tc Cert.KernelIdeal.main_v1422)) (Φ₂ (Proc.devRef .tc Cert.ReferenceIdeal.main_v1430)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 14) rfl) :) e146 e180
  have e182 : @Eq ((⟨Cert.KernelIdeal.S1x131072, .f32⟩ : BufTy).Contents (Elt F)) (Φ₁ (Proc.devRef .tc Cert.KernelIdeal.main_v1423)) (Φ₂ (Proc.devRef .tc Cert.ReferenceIdeal.main_v1431)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 15) rfl) :) e34
  have e183 : @Eq ((⟨Cert.KernelIdeal.S32x131072, .f32⟩ : BufTy).Contents (Elt F)) (Φ₁ (Proc.devRef .tc Cert.KernelIdeal.main_v1424)) (Φ₂ (Proc.devRef .tc Cert.ReferenceIdeal.main_v1432)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 16) rfl) :) e182
  have e184 : @Eq ((⟨Cert.KernelIdeal.S32x131072, .f32⟩ : BufTy).Contents (Elt F)) (Φ₁ (Proc.devRef .tc Cert.KernelIdeal.main_v1425)) (Φ₂ (Proc.devRef .tc Cert.ReferenceIdeal.main_v1433)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 17) rfl) :) e181 e183
  have e185 : @Eq ((⟨Cert.KernelIdeal.S32x131072, .f32⟩ : BufTy).Contents (Elt F)) (Φ₁ (Proc.devRef .tc Cert.KernelIdeal.main_v1426)) (Φ₂ (Proc.devRef .tc Cert.ReferenceIdeal.main_v1434)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 18) rfl) :) e178 e184
  have e186 : @Eq ((⟨Cert.KernelIdeal.S131072x32, .f32⟩ : BufTy).Contents (Elt F)) (Φ₁ (Proc.devRef .tc Cert.KernelIdeal.main_v1427)) (Φ₂ (Proc.devRef .tc Cert.ReferenceIdeal.main_v1435)) := by rw [eq1 (at_ fa8 (i := 111) rfl), eq1 (at_ fb3 (i := 19) rfl), e185] <;> rfl
  exact e186

end Cert.Bridge

end
-- ==== Proof.RefOps4.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 32 of @main: 75 operations, writing buffers 2173 … 2247. -/
abbrev w32 : List (HloOp τ sig (Elt F)) :=
  [ StableHlo.nullary main_c_452 (constantI S_ 32 1#32),
    StableHlo.unary main_c_452 main_v1466 (broadcastInDim S131072 ![] bcast_S_S131072 : (⟨S_, .i32⟩ : BufTy).Contents (Elt F) → (⟨S131072, .i32⟩ : BufTy).Contents (Elt F)),
    StableHlo.binary main_v1465 main_v1466 main_v1467 (addi : (⟨S131072, .i32⟩ : BufTy).Contents (Elt F) → (⟨S131072, .i32⟩ : BufTy).Contents (Elt F) → (⟨S131072, .i32⟩ : BufTy).Contents (Elt F)),
    StableHlo.nullary main_c_453 (constantI S_ 32 0#32),
    StableHlo.nullary main_c_454 (constantI S_ 32 127#32),
    StableHlo.TRef.unary (.of main_c_453) main_call45.v0 id,
    StableHlo.TRef.unary main_call45.v0 main_call45.v1 (broadcastInDim S131072 ![] bcast_S_S131072),
    StableHlo.TRef.binary main_call45.v1 (.of main_v1467) main_call45.v2 maxsi,
    StableHlo.TRef.unary (.of main_c_454) main_call45.v3 id,
    StableHlo.TRef.unary main_call45.v3 main_call45.v4 (broadcastInDim S131072 ![] bcast_S_S131072),
    StableHlo.TRef.binary main_call45.v4 main_call45.v2 main_call45.v5 minsi,
    StableHlo.unary main_v1461 main_v1469 (fptosi 32 : (⟨S131072, .f32⟩ : BufTy).Contents (Elt F) → (⟨S131072, .i32⟩ : BufTy).Contents (Elt F)),
    StableHlo.nullary main_c_455 (constantI S_ 32 0#32),
    StableHlo.nullary main_c_456 (constantI S_ 32 149#32),
    StableHlo.TRef.unary (.of main_c_455) main_call46.v0 id,
    StableHlo.TRef.unary main_call46.v0 main_call46.v1 (broadcastInDim S131072 ![] bcast_S_S131072),
    StableHlo.TRef.binary main_call46.v1 (.of main_v1469) main_call46.v2 maxsi,
    StableHlo.TRef.unary (.of main_c_456) main_call46.v3 id,
    StableHlo.TRef.unary main_call46.v3 main_call46.v4 (broadcastInDim S131072 ![] bcast_S_S131072),
    StableHlo.TRef.binary main_call46.v4 main_call46.v2 main_call46.v5 minsi,
    StableHlo.nullary main_c_457 (constantI S_ 32 1#32),
    StableHlo.unary main_c_457 main_v1471 (broadcastInDim S131072 ![] bcast_S_S131072 : (⟨S_, .i32⟩ : BufTy).Contents (Elt F) → (⟨S131072, .i32⟩ : BufTy).Contents (Elt F)),
    StableHlo.binary main_v1470 main_v1471 main_v1472 (addi : (⟨S131072, .i32⟩ : BufTy).Contents (Elt F) → (⟨S131072, .i32⟩ : BufTy).Contents (Elt F) → (⟨S131072, .i32⟩ : BufTy).Contents (Elt F)),
    StableHlo.nullary main_c_458 (constantI S_ 32 0#32),
    StableHlo.nullary main_c_459 (constantI S_ 32 149#32),
    StableHlo.TRef.unary (.of main_c_458) main_call47.v0 id,
    StableHlo.TRef.unary main_call47.v0 main_call47.v1 (broadcastInDim S131072 ![] bcast_S_S131072),
    StableHlo.TRef.binary main_call47.v1 (.of main_v1472) main_call47.v2 maxsi,
    StableHlo.TRef.unary (.of main_c_459) main_call47.v3 id,
    StableHlo.TRef.unary main_call47.v3 main_call47.v4 (broadcastInDim S131072 ![] bcast_S_S131072),
    StableHlo.TRef.binary main_call47.v4 main_call47.v2 main_call47.v5 minsi,
    StableHlo.nullary main_c_460 (constantI S_ 32 0#32),
    StableHlo.unary main_c_460 main_v1474 (broadcastInDim S131072 ![] bcast_S_S131072 : (⟨S_, .i32⟩ : BufTy).Contents (Elt F) → (⟨S131072, .i32⟩ : BufTy).Contents (Elt F)),
    StableHlo.binary main_v1470 main_v1474 main_v1475 (cmpi .slt : (⟨S131072, .i32⟩ : BufTy).Contents (Elt F) → (⟨S131072, .i32⟩ : BufTy).Contents (Elt F) → (⟨S131072, .i1⟩ : BufTy).Contents (Elt F)),
    StableHlo.nullary main_c_461 (constantI S_ 32 150#32),
    StableHlo.unary main_c_461 main_v1476 (broadcastInDim S131072 ![] bcast_S_S131072 : (⟨S_, .i32⟩ : BufTy).Contents (Elt F) → (⟨S131072, .i32⟩ : BufTy).Contents (Elt F)),
    StableHlo.binary main_v1470 main_v1476 main_v1477 (addi : (⟨S131072, .i32⟩ : BufTy).Contents (Elt F) → (⟨S131072, .i32⟩ : BufTy).Contents (Elt F) → (⟨S131072, .i32⟩ : BufTy).Contents (Elt F)),
    StableHlo.ternary main_v1475 main_v1477 main_v1470 main_v1478 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_462 (constantI S_ 32 0#32),
    StableHlo.unary main_c_462 main_v1479 (broadcastInDim S131072 ![] bcast_S_S131072 : (⟨S_, .i32⟩ : BufTy).Contents (Elt F) → (⟨S131072, .i32⟩ : BufTy).Contents (Elt F)),
    StableHlo.binary main_v1465 main_v1479 main_v1480 (cmpi .slt : (⟨S131072, .i32⟩ : BufTy).Contents (Elt F) → (⟨S131072, .i32⟩ : BufTy).Contents (Elt F) → (⟨S131072, .i1⟩ : BufTy).Contents (Elt F)),
    StableHlo.nullary main_c_463 (constantI S_ 32 128#32),
    StableHlo.unary main_c_463 main_v1481 (broadcastInDim S131072 ![] bcast_S_S131072 : (⟨S_, .i32⟩ : BufTy).Contents (Elt F) → (⟨S131072, .i32⟩ : BufTy).Contents (Elt F)),
    StableHlo.binary main_v1465 main_v1481 main_v1482 (addi : (⟨S131072, .i32⟩ : BufTy).Contents (Elt F) → (⟨S131072, .i32⟩ : BufTy).Contents (Elt F) → (⟨S131072, .i32⟩ : BufTy).Contents (Elt F)),
    StableHlo.ternary main_v1480 main_v1482 main_v1465 main_v1483 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1478 main_v1484 (broadcastInDim S131072x1 ![0] bcast_S131072_S131072x1_0 : (⟨S131072, .i32⟩ : BufTy).Contents (Elt F) → (⟨S131072x1, .i32⟩ : BufTy).Contents (Elt F)),
    StableHlo.unary main_v1483 main_v1485 (broadcastInDim S131072x1 ![0] bcast_S131072_S131072x1_0 : (⟨S131072, .i32⟩ : BufTy).Contents (Elt F) → (⟨S131072x1, .i32⟩ : BufTy).Contents (Elt F)),
    StableHlo.binary main_v1484 main_v1485 main_v1486 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg13 main_v1486 main_v1487 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_464 (constantI S_ 32 0#32),
    StableHlo.unary main_c_464 main_v1488 (broadcastInDim S131072 ![] bcast_S_S131072 : (⟨S_, .i32⟩ : BufTy).Contents (Elt F) → (⟨S131072, .i32⟩ : BufTy).Contents (Elt F)),
    StableHlo.binary main_v1470 main_v1488 main_v1489 (cmpi .slt : (⟨S131072, .i32⟩ : BufTy).Contents (Elt F) → (⟨S131072, .i32⟩ : BufTy).Contents (Elt F) → (⟨S131072, .i1⟩ : BufTy).Contents (Elt F)),
    StableHlo.nullary main_c_465 (constantI S_ 32 150#32),
    StableHlo.unary main_c_465 main_v1490 (broadcastInDim S131072 ![] bcast_S_S131072 : (⟨S_, .i32⟩ : BufTy).Contents (Elt F) → (⟨S131072, .i32⟩ : BufTy).Contents (Elt F)),
    StableHlo.binary main_v1470 main_v1490 main_v1491 (addi : (⟨S131072, .i32⟩ : BufTy).Contents (Elt F) → (⟨S131072, .i32⟩ : BufTy).Contents (Elt F) → (⟨S131072, .i32⟩ : BufTy).Contents (Elt F)),
    StableHlo.ternary main_v1489 main_v1491 main_v1470 main_v1492 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_466 (constantI S_ 32 0#32),
    StableHlo.unary main_c_466 main_v1493 (broadcastInDim S131072 ![] bcast_S_S131072 : (⟨S_, .i32⟩ : BufTy).Contents (Elt F) → (⟨S131072, .i32⟩ : BufTy).Contents (Elt F)),
    StableHlo.binary main_v1468 main_v1493 main_v1494 (cmpi .slt : (⟨S131072, .i32⟩ : BufTy).Contents (Elt F) → (⟨S131072, .i32⟩ : BufTy).Contents (Elt F) → (⟨S131072, .i1⟩ : BufTy).Contents (Elt F)),
    StableHlo.nullary main_c_467 (constantI S_ 32 128#32),
    StableHlo.unary main_c_467 main_v1495 (broadcastInDim S131072 ![] bcast_S_S131072 : (⟨S_, .i32⟩ : BufTy).Contents (Elt F) → (⟨S131072, .i32⟩ : BufTy).Contents (Elt F)),
    StableHlo.binary main_v1468 main_v1495 main_v1496 (addi : (⟨S131072, .i32⟩ : BufTy).Contents (Elt F) → (⟨S131072, .i32⟩ : BufTy).Contents (Elt F) → (⟨S131072, .i32⟩ : BufTy).Contents (Elt F)),
    StableHlo.ternary main_v1494 main_v1496 main_v1468 main_v1497 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1492 main_v1498 (broadcastInDim S131072x1 ![0] bcast_S131072_S131072x1_0 : (⟨S131072, .i32⟩ : BufTy).Contents (Elt F) → (⟨S131072x1, .i32⟩ : BufTy).Contents (Elt F)),
    StableHlo.unary main_v1497 main_v1499 (broadcastInDim S131072x1 ![0] bcast_S131072_S131072x1_0 : (⟨S131072, .i32⟩ : BufTy).Contents (Elt F) → (⟨S131072x1, .i32⟩ : BufTy).Contents (Elt F)),
    StableHlo.binary main_v1498 main_v1499 main_v1500 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg13 main_v1500 main_v1501 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_468 (constantI S_ 32 0#32),
    StableHlo.unary main_c_468 main_v1502 (broadcastInDim S131072 ![] bcast_S_S131072 : (⟨S_, .i32⟩ : BufTy).Contents (Elt F) → (⟨S131072, .i32⟩ : BufTy).Contents (Elt F)),
    StableHlo.binary main_v1473 main_v1502 main_v1503 (cmpi .slt : (⟨S131072, .i32⟩ : BufTy).Contents (Elt F) → (⟨S131072, .i32⟩ : BufTy).Contents (Elt F) → (⟨S131072, .i1⟩ : BufTy).Contents (Elt F)),
    StableHlo.nullary main_c_469 (constantI S_ 32 150#32),
    StableHlo.unary main_c_469 main_v1504 (broadcastInDim S131072 ![] bcast_S_S131072 : (⟨S_, .i32⟩ : BufTy).Contents (Elt F) → (⟨S131072, .i32⟩ : BufTy).Contents (Elt F)),
    StableHlo.binary main_v1473 main_v1504 main_v1505 (addi : (⟨S131072, .i32⟩ : BufTy).Contents (Elt F) → (⟨S131072, .i32⟩ : BufTy).Contents (Elt F) → (⟨S131072, .i32⟩ : BufTy).Contents (Elt F)),
    StableHlo.ternary main_v1503 main_v1505 main_v1473 main_v1506 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_470 (constantI S_ 32 0#32) ]
theorem w32_eq (c : Dev nD) : main_part32 (F := F) c = seq w32 := rfl
theorem w32_sub : (w32 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub ..⟩
theorem w32_fresh : (w32 : List (HloOp τ sig (Elt F))).Forall fun op => op.fresh = ∅ := by
  simp only [List.Forall]; repeat' constructor
set_option maxHeartbeats 4000000 in
theorem w32_chain : Chain 2173 (w32 : List (HloOp τ sig (Elt F))) :=
  Chain.cons (stepAt_nullary 2173 _ _ rfl) <|
  Chain.cons (stepAt_unary 2174 _ _ _ rfl (by decide)) <|
  Chain.cons (stepAt_binary 2175 _ _ _ _ rfl (by decide) (by decide)) <|
  Chain.cons (stepAt_nullary 2176 _ _ rfl) <|
  Chain.cons (stepAt_nullary 2177 _ _ rfl) <|
  Chain.cons (stepAt_unary 2178 _ _ _ rfl (by decide)) <|
  Chain.cons (stepAt_unary 2179 _ _ _ rfl (by decide)) <|
  Chain.cons (stepAt_binary 2180 _ _ _ _ rfl (by decide) (by decide)) <|
  Chain.cons (stepAt_unary 2181 _ _ _ rfl (by decide)) <|
  Chain.cons (stepAt_unary 2182 _ _ _ rfl (by decide)) <|
  Chain.cons (stepAt_binary 2183 _ _ _ _ rfl (by decide) (by decide)) <|
  Chain.cons (stepAt_unary 2184 _ _ _ rfl (by decide)) <|
  Chain.cons (stepAt_nullary 2185 _ _ rfl) <|
  Chain.cons (stepAt_nullary 2186 _ _ rfl) <|
  Chain.cons (stepAt_unary 2187 _ _ _ rfl (by decide)) <|
  Chain.cons (stepAt_unary 2188 _ _ _ rfl (by decide)) <|
  Chain.cons (stepAt_binary 2189 _ _ _ _ rfl (by decide) (by decide)) <|
  Chain.cons (stepAt_unary 2190 _ _ _ rfl (by decide)) <|
  Chain.cons (stepAt_unary 2191 _ _ _ rfl (by decide)) <|
  Chain.cons (stepAt_binary 2192 _ _ _ _ rfl (by decide) (by decide)) <|
  Chain.cons (stepAt_nullary 2193 _ _ rfl) <|
  Chain.cons (stepAt_unary 2194 _ _ _ rfl (by decide)) <|
  Chain.cons (stepAt_binary 2195 _ _ _ _ rfl (by decide) (by decide)) <|
  Chain.cons (stepAt_nullary 2196 _ _ rfl) <|
  Chain.cons (stepAt_nullary 2197 _ _ rfl) <|
  Chain.cons (stepAt_unary 2198 _ _ _ rfl (by decide)) <|
  Chain.cons (stepAt_unary 2199 _ _ _ rfl (by decide)) <|
  Chain.cons (stepAt_binary 2200 _ _ _ _ rfl (by decide) (by decide)) <|
  Chain.cons (stepAt_unary 2201 _ _ _ rfl (by decide)) <|
  Chain.cons (stepAt_unary 2202 _ _ _ rfl (by decide)) <|
  Chain.cons (stepAt_binary 2203 _ _ _ _ rfl (by decide) (by decide)) <|
  Chain.cons (stepAt_nullary 2204 _ _ rfl) <|
  Chain.cons (stepAt_unary 2205 _ _ _ rfl (by decide)) <|
  Chain.cons (stepAt_binary 2206 _ _ _ _ rfl (by decide) (by decide)) <|
  Chain.cons (stepAt_nullary 2207 _ _ rfl) <|
  Chain.cons (stepAt_unary 2208 _ _ _ rfl (by decide)) <|
  Chain.cons (stepAt_binary 2209 _ _ _ _ rfl (by decide) (by decide)) <|
  Chain.cons (stepAt_ternary 2210 _ _ _ _ _ rfl (by decide) (by decide) (by decide)) <|
  Chain.cons (stepAt_nullary 2211 _ _ rfl) <|
  Chain.cons (stepAt_unary 2212 _ _ _ rfl (by decide)) <|
  Chain.cons (stepAt_binary 2213 _ _ _ _ rfl (by decide) (by decide)) <|
  Chain.cons (stepAt_nullary 2214 _ _ rfl) <|
  Chain.cons (stepAt_unary 2215 _ _ _ rfl (by decide)) <|
  Chain.cons (stepAt_binary 2216 _ _ _ _ rfl (by decide) (by decide)) <|
  Chain.cons (stepAt_ternary 2217 _ _ _ _ _ rfl (by decide) (by decide) (by decide)) <|
  Chain.cons (stepAt_unary 2218 _ _ _ rfl (by decide)) <|
  Chain.cons (stepAt_unary 2219 _ _ _ rfl (by decide)) <|
  Chain.cons (stepAt_binary 2220 _ _ _ _ rfl (by decide) (by decide)) <|
  Chain.cons (stepAt_binary 2221 _ _ _ _ rfl (by decide) (by decide)) <|
  Chain.cons (stepAt_nullary 2222 _ _ rfl) <|
  Chain.cons (stepAt_unary 2223 _ _ _ rfl (by decide)) <|
  Chain.cons (stepAt_binary 2224 _ _ _ _ rfl (by decide) (by decide)) <|
  Chain.cons (stepAt_nullary 2225 _ _ rfl) <|
  Chain.cons (stepAt_unary 2226 _ _ _ rfl (by decide)) <|
  Chain.cons (stepAt_binary 2227 _ _ _ _ rfl (by decide) (by decide)) <|
  Chain.cons (stepAt_ternary 2228 _ _ _ _ _ rfl (by decide) (by decide) (by decide)) <|
  Chain.cons (stepAt_nullary 2229 _ _ rfl) <|
  Chain.cons (stepAt_unary 2230 _ _ _ rfl (by decide)) <|
  Chain.cons (stepAt_binary 2231 _ _ _ _ rfl (by decide) (by decide)) <|
  Chain.cons (stepAt_nullary 2232 _ _ rfl) <|
  Chain.cons (stepAt_unary 2233 _ _ _ rfl (by decide)) <|
  Chain.cons (stepAt_binary 2234 _ _ _ _ rfl (by decide) (by decide)) <|
  Chain.cons (stepAt_ternary 2235 _ _ _ _ _ rfl (by decide) (by decide) (by decide)) <|
  Chain.cons (stepAt_unary 2236 _ _ _ rfl (by decide)) <|
  Chain.cons (stepAt_unary 2237 _ _ _ rfl (by decide)) <|
  Chain.cons (stepAt_binary 2238 _ _ _ _ rfl (by decide) (by decide)) <|
  Chain.cons (stepAt_binary 2239 _ _ _ _ rfl (by decide) (by decide)) <|
  Chain.cons (stepAt_nullary 2240 _ _ rfl) <|
  Chain.cons (stepAt_unary 2241 _ _ _ rfl (by decide)) <|
  Chain.cons (stepAt_binary 2242 _ _ _ _ rfl (by decide) (by decide)) <|
  Chain.cons (stepAt_nullary 2243 _ _ rfl) <|
  Chain.cons (stepAt_unary 2244 _ _ _ rfl (by decide)) <|
  Chain.cons (stepAt_binary 2245 _ _ _ _ rfl (by decide) (by decide)) <|
  Chain.cons (stepAt_ternary 2246 _ _ _ _ _ rfl (by decide) (by decide) (by decide)) <|
  Chain.cons (stepAt_nullary 2247 _ _ rfl) <|
  Chain.nil
theorem w32_length : (w32 : List (HloOp τ sig (Elt F))).length = 75 := rfl

/-- Window 33 of @main: 60 operations, writing buffers 2248 … 2307. -/
abbrev w33 : List (HloOp τ sig (Elt F)) :=
  [ StableHlo.unary main_c_470 main_v1507 (broadcastInDim S131072 ![] bcast_S_S131072 : (⟨S_, .i32⟩ : BufTy).Contents (Elt F) → (⟨S131072, .i32⟩ : BufTy).Contents (Elt F)),
    StableHlo.binary main_v1465 main_v1507 main_v1508 (cmpi .slt : (⟨S131072, .i32⟩ : BufTy).Contents (Elt F) → (⟨S131072, .i32⟩ : BufTy).Contents (Elt F) → (⟨S131072, .i1⟩ : BufTy).Contents (Elt F)),
    StableHlo.nullary main_c_471 (constantI S_ 32 128#32),
    StableHlo.unary main_c_471 main_v1509 (broadcastInDim S131072 ![] bcast_S_S131072 : (⟨S_, .i32⟩ : BufTy).Contents (Elt F) → (⟨S131072, .i32⟩ : BufTy).Contents (Elt F)),
    StableHlo.binary main_v1465 main_v1509 main_v1510 (addi : (⟨S131072, .i32⟩ : BufTy).Contents (Elt F) → (⟨S131072, .i32⟩ : BufTy).Contents (Elt F) → (⟨S131072, .i32⟩ : BufTy).Contents (Elt F)),
    StableHlo.ternary main_v1508 main_v1510 main_v1465 main_v1511 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1506 main_v1512 (broadcastInDim S131072x1 ![0] bcast_S131072_S131072x1_0 : (⟨S131072, .i32⟩ : BufTy).Contents (Elt F) → (⟨S131072x1, .i32⟩ : BufTy).Contents (Elt F)),
    StableHlo.unary main_v1511 main_v1513 (broadcastInDim S131072x1 ![0] bcast_S131072_S131072x1_0 : (⟨S131072, .i32⟩ : BufTy).Contents (Elt F) → (⟨S131072x1, .i32⟩ : BufTy).Contents (Elt F)),
    StableHlo.binary main_v1512 main_v1513 main_v1514 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg13 main_v1514 main_v1515 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_c_472 (constantI S_ 32 0#32),
    StableHlo.unary main_c_472 main_v1516 (broadcastInDim S131072 ![] bcast_S_S131072 : (⟨S_, .i32⟩ : BufTy).Contents (Elt F) → (⟨S131072, .i32⟩ : BufTy).Contents (Elt F)),
    StableHlo.binary main_v1473 main_v1516 main_v1517 (cmpi .slt : (⟨S131072, .i32⟩ : BufTy).Contents (Elt F) → (⟨S131072, .i32⟩ : BufTy).Contents (Elt F) → (⟨S131072, .i1⟩ : BufTy).Contents (Elt F)),
    StableHlo.nullary main_c_473 (constantI S_ 32 150#32),
    StableHlo.unary main_c_473 main_v1518 (broadcastInDim S131072 ![] bcast_S_S131072 : (⟨S_, .i32⟩ : BufTy).Contents (Elt F) → (⟨S131072, .i32⟩ : BufTy).Contents (Elt F)),
    StableHlo.binary main_v1473 main_v1518 main_v1519 (addi : (⟨S131072, .i32⟩ : BufTy).Contents (Elt F) → (⟨S131072, .i32⟩ : BufTy).Contents (Elt F) → (⟨S131072, .i32⟩ : BufTy).Contents (Elt F)),
    StableHlo.ternary main_v1517 main_v1519 main_v1473 main_v1520 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_474 (constantI S_ 32 0#32),
    StableHlo.unary main_c_474 main_v1521 (broadcastInDim S131072 ![] bcast_S_S131072 : (⟨S_, .i32⟩ : BufTy).Contents (Elt F) → (⟨S131072, .i32⟩ : BufTy).Contents (Elt F)),
    StableHlo.binary main_v1468 main_v1521 main_v1522 (cmpi .slt : (⟨S131072, .i32⟩ : BufTy).Contents (Elt F) → (⟨S131072, .i32⟩ : BufTy).Contents (Elt F) → (⟨S131072, .i1⟩ : BufTy).Contents (Elt F)),
    StableHlo.nullary main_c_475 (constantI S_ 32 128#32),
    StableHlo.unary main_c_475 main_v1523 (broadcastInDim S131072 ![] bcast_S_S131072 : (⟨S_, .i32⟩ : BufTy).Contents (Elt F) → (⟨S131072, .i32⟩ : BufTy).Contents (Elt F)),
    StableHlo.binary main_v1468 main_v1523 main_v1524 (addi : (⟨S131072, .i32⟩ : BufTy).Contents (Elt F) → (⟨S131072, .i32⟩ : BufTy).Contents (Elt F) → (⟨S131072, .i32⟩ : BufTy).Contents (Elt F)),
    StableHlo.ternary main_v1522 main_v1524 main_v1468 main_v1525 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1520 main_v1526 (broadcastInDim S131072x1 ![0] bcast_S131072_S131072x1_0 : (⟨S131072, .i32⟩ : BufTy).Contents (Elt F) → (⟨S131072x1, .i32⟩ : BufTy).Contents (Elt F)),
    StableHlo.unary main_v1525 main_v1527 (broadcastInDim S131072x1 ![0] bcast_S131072_S131072x1_0 : (⟨S131072, .i32⟩ : BufTy).Contents (Elt F) → (⟨S131072x1, .i32⟩ : BufTy).Contents (Elt F)),
    StableHlo.binary main_v1526 main_v1527 main_v1528 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg13 main_v1528 main_v1529 ((fun x i => Host.gather gather_S32x150x128_S131072x2_S32x131072_0_12_n_n_12_1_3211 x i) : (⟨S32x150x128, .f32⟩ : BufTy).Contents (Elt F) → (⟨S131072x2, .i32⟩ : BufTy).Contents (Elt F) → (⟨S32x131072, .f32⟩ : BufTy).Contents (Elt F)),
    StableHlo.nullary main_cst_476 (constant S_ .f32 0x3F800000#32),
    StableHlo.unary main_cst_476 main_v1530 (broadcastInDim S131072 ![] bcast_S_S131072 : (⟨S_, .f32⟩ : BufTy).Contents (Elt F) → (⟨S131072, .f32⟩ : BufTy).Contents (Elt F)),
    StableHlo.binary main_v1530 main_v1462 main_v1531 (subf : (⟨S131072, .f32⟩ : BufTy).Contents (Elt F) → (⟨S131072, .f32⟩ : BufTy).Contents (Elt F) → (⟨S131072, .f32⟩ : BufTy).Contents (Elt F)),
    StableHlo.unary main_v1531 main_v1532 (broadcastInDim S1x131072 ![1] bcast_S131072_S1x131072_1 : (⟨S131072, .f32⟩ : BufTy).Contents (Elt F) → (⟨S1x131072, .f32⟩ : BufTy).Contents (Elt F)),
    StableHlo.unary main_v1532 main_v1533 (broadcastInDim S32x131072 ![0, 1] bcast_S1x131072_S32x131072_0_1 : (⟨S1x131072, .f32⟩ : BufTy).Contents (Elt F) → (⟨S32x131072, .f32⟩ : BufTy).Contents (Elt F)),
    StableHlo.binary main_v1487 main_v1533 main_v1534 (mulf : (⟨S32x131072, .f32⟩ : BufTy).Contents (Elt F) → (⟨S32x131072, .f32⟩ : BufTy).Contents (Elt F) → (⟨S32x131072, .f32⟩ : BufTy).Contents (Elt F)),
    StableHlo.nullary main_cst_477 (constant S_ .f32 0x3F800000#32),
    StableHlo.unary main_cst_477 main_v1535 (broadcastInDim S131072 ![] bcast_S_S131072 : (⟨S_, .f32⟩ : BufTy).Contents (Elt F) → (⟨S131072, .f32⟩ : BufTy).Contents (Elt F)),
    StableHlo.binary main_v1535 main_v1463 main_v1536 (subf : (⟨S131072, .f32⟩ : BufTy).Contents (Elt F) → (⟨S131072, .f32⟩ : BufTy).Contents (Elt F) → (⟨S131072, .f32⟩ : BufTy).Contents (Elt F)),
    StableHlo.unary main_v1536 main_v1537 (broadcastInDim S1x131072 ![1] bcast_S131072_S1x131072_1 : (⟨S131072, .f32⟩ : BufTy).Contents (Elt F) → (⟨S1x131072, .f32⟩ : BufTy).Contents (Elt F)),
    StableHlo.unary main_v1537 main_v1538 (broadcastInDim S32x131072 ![0, 1] bcast_S1x131072_S32x131072_0_1 : (⟨S1x131072, .f32⟩ : BufTy).Contents (Elt F) → (⟨S32x131072, .f32⟩ : BufTy).Contents (Elt F)),
    StableHlo.binary main_v1534 main_v1538 main_v1539 (mulf : (⟨S32x131072, .f32⟩ : BufTy).Contents (Elt F) → (⟨S32x131072, .f32⟩ : BufTy).Contents (Elt F) → (⟨S32x131072, .f32⟩ : BufTy).Contents (Elt F)),
    StableHlo.unary main_v1462 main_v1540 (broadcastInDim S1x131072 ![1] bcast_S131072_S1x131072_1 : (⟨S131072, .f32⟩ : BufTy).Contents (Elt F) → (⟨S1x131072, .f32⟩ : BufTy).Contents (Elt F)),
    StableHlo.unary main_v1540 main_v1541 (broadcastInDim S32x131072 ![0, 1] bcast_S1x131072_S32x131072_0_1 : (⟨S1x131072, .f32⟩ : BufTy).Contents (Elt F) → (⟨S32x131072, .f32⟩ : BufTy).Contents (Elt F)),
    StableHlo.binary main_v1501 main_v1541 main_v1542 (mulf : (⟨S32x131072, .f32⟩ : BufTy).Contents (Elt F) → (⟨S32x131072, .f32⟩ : BufTy).Contents (Elt F) → (⟨S32x131072, .f32⟩ : BufTy).Contents (Elt F)),
    StableHlo.nullary main_cst_478 (constant S_ .f32 0x3F800000#32),
    StableHlo.unary main_cst_478 main_v1543 (broadcastInDim S131072 ![] bcast_S_S131072 : (⟨S_, .f32⟩ : BufTy).Contents (Elt F) → (⟨S131072, .f32⟩ : BufTy).Contents (Elt F)),
    StableHlo.binary main_v1543 main_v1463 main_v1544 (subf : (⟨S131072, .f32⟩ : BufTy).Contents (Elt F) → (⟨S131072, .f32⟩ : BufTy).Contents (Elt F) → (⟨S131072, .f32⟩ : BufTy).Contents (Elt F)),
    StableHlo.unary main_v1544 main_v1545 (broadcastInDim S1x131072 ![1] bcast_S131072_S1x131072_1 : (⟨S131072, .f32⟩ : BufTy).Contents (Elt F) → (⟨S1x131072, .f32⟩ : BufTy).Contents (Elt F)),
    StableHlo.unary main_v1545 main_v1546 (broadcastInDim S32x131072 ![0, 1] bcast_S1x131072_S32x131072_0_1 : (⟨S1x131072, .f32⟩ : BufTy).Contents (Elt F) → (⟨S32x131072, .f32⟩ : BufTy).Contents (Elt F)),
    StableHlo.binary main_v1542 main_v1546 main_v1547 (mulf : (⟨S32x131072, .f32⟩ : BufTy).Contents (Elt F) → (⟨S32x131072, .f32⟩ : BufTy).Contents (Elt F) → (⟨S32x131072, .f32⟩ : BufTy).Contents (Elt F)),
    StableHlo.binary main_v1539 main_v1547 main_v1548 (addf : (⟨S32x131072, .f32⟩ : BufTy).Contents (Elt F) → (⟨S32x131072, .f32⟩ : BufTy).Contents (Elt F) → (⟨S32x131072, .f32⟩ : BufTy).Contents (Elt F)),
    StableHlo.nullary main_cst_479 (constant S_ .f32 0x3F800000#32),
    StableHlo.unary main_cst_479 main_v1549 (broadcastInDim S131072 ![] bcast_S_S131072 : (⟨S_, .f32⟩ : BufTy).Contents (Elt F) → (⟨S131072, .f32⟩ : BufTy).Contents (Elt F)),
    StableHlo.binary main_v1549 main_v1462 main_v1550 (subf : (⟨S131072, .f32⟩ : BufTy).Contents (Elt F) → (⟨S131072, .f32⟩ : BufTy).Contents (Elt F) → (⟨S131072, .f32⟩ : BufTy).Contents (Elt F)),
    StableHlo.unary main_v1550 main_v1551 (broadcastInDim S1x131072 ![1] bcast_S131072_S1x131072_1 : (⟨S131072, .f32⟩ : BufTy).Contents (Elt F) → (⟨S1x131072, .f32⟩ : BufTy).Contents (Elt F)),
    StableHlo.unary main_v1551 main_v1552 (broadcastInDim S32x131072 ![0, 1] bcast_S1x131072_S32x131072_0_1 : (⟨S1x131072, .f32⟩ : BufTy).Contents (Elt F) → (⟨S32x131072, .f32⟩ : BufTy).Contents (Elt F)),
    StableHlo.binary main_v1515 main_v1552 main_v1553 (mulf : (⟨S32x131072, .f32⟩ : BufTy).Contents (Elt F) → (⟨S32x131072, .f32⟩ : BufTy).Contents (Elt F) → (⟨S32x131072, .f32⟩ : BufTy).Contents (Elt F)),
    StableHlo.unary main_v1463 main_v1554 (broadcastInDim S1x131072 ![1] bcast_S131072_S1x131072_1 : (⟨S131072, .f32⟩ : BufTy).Contents (Elt F) → (⟨S1x131072, .f32⟩ : BufTy).Contents (Elt F)),
    StableHlo.unary main_v1554 main_v1555 (broadcastInDim S32x131072 ![0, 1] bcast_S1x131072_S32x131072_0_1 : (⟨S1x131072, .f32⟩ : BufTy).Contents (Elt F) → (⟨S32x131072, .f32⟩ : BufTy).Contents (Elt F)),
    StableHlo.binary main_v1553 main_v1555 main_v1556 (mulf : (⟨S32x131072, .f32⟩ : BufTy).Contents (Elt F) → (⟨S32x131072, .f32⟩ : BufTy).Contents (Elt F) → (⟨S32x131072, .f32⟩ : BufTy).Contents (Elt F)),
    StableHlo.binary main_v1548 main_v1556 main_v1557 (addf : (⟨S32x131072, .f32⟩ : BufTy).Contents (Elt F) → (⟨S32x131072, .f32⟩ : BufTy).Contents (Elt F) → (⟨S32x131072, .f32⟩ : BufTy).Contents (Elt F)) ]
theorem w33_eq (c : Dev nD) : main_part33 (F := F) c = seq w33 := rfl
theorem w33_sub : (w33 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub ..⟩
theorem w33_fresh : (w33 : List (HloOp τ sig (Elt F))).Forall fun op => op.fresh = ∅ := by
  simp only [List.Forall]; repeat' constructor
set_option maxHeartbeats 4000000 in
theorem w33_chain : Chain 2248 (w33 : List (HloOp τ sig (Elt F))) :=
  Chain.cons (stepAt_unary 2248 _ _ _ rfl (by decide)) <|
  Chain.cons (stepAt_binary 2249 _ _ _ _ rfl (by decide) (by decide)) <|
  Chain.cons (stepAt_nullary 2250 _ _ rfl) <|
  Chain.cons (stepAt_unary 2251 _ _ _ rfl (by decide)) <|
  Chain.cons (stepAt_binary 2252 _ _ _ _ rfl (by decide) (by decide)) <|
  Chain.cons (stepAt_ternary 2253 _ _ _ _ _ rfl (by decide) (by decide) (by decide)) <|
  Chain.cons (stepAt_unary 2254 _ _ _ rfl (by decide)) <|
  Chain.cons (stepAt_unary 2255 _ _ _ rfl (by decide)) <|
  Chain.cons (stepAt_binary 2256 _ _ _ _ rfl (by decide) (by decide)) <|
  Chain.cons (stepAt_binary 2257 _ _ _ _ rfl (by decide) (by decide)) <|
  Chain.cons (stepAt_nullary 2258 _ _ rfl) <|
  Chain.cons (stepAt_unary 2259 _ _ _ rfl (by decide)) <|
  Chain.cons (stepAt_binary 2260 _ _ _ _ rfl (by decide) (by decide)) <|
  Chain.cons (stepAt_nullary 2261 _ _ rfl) <|
  Chain.cons (stepAt_unary 2262 _ _ _ rfl (by decide)) <|
  Chain.cons (stepAt_binary 2263 _ _ _ _ rfl (by decide) (by decide)) <|
  Chain.cons (stepAt_ternary 2264 _ _ _ _ _ rfl (by decide) (by decide) (by decide)) <|
  Chain.cons (stepAt_nullary 2265 _ _ rfl) <|
  Chain.cons (stepAt_unary 2266 _ _ _ rfl (by decide)) <|
  Chain.cons (stepAt_binary 2267 _ _ _ _ rfl (by decide) (by decide)) <|
  Chain.cons (stepAt_nullary 2268 _ _ rfl) <|
  Chain.cons (stepAt_unary 2269 _ _ _ rfl (by decide)) <|
  Chain.cons (stepAt_binary 2270 _ _ _ _ rfl (by decide) (by decide)) <|
  Chain.cons (stepAt_ternary 2271 _ _ _ _ _ rfl (by decide) (by decide) (by decide)) <|
  Chain.cons (stepAt_unary 2272 _ _ _ rfl (by decide)) <|
  Chain.cons (stepAt_unary 2273 _ _ _ rfl (by decide)) <|
  Chain.cons (stepAt_binary 2274 _ _ _ _ rfl (by decide) (by decide)) <|
  Chain.cons (stepAt_binary 2275 _ _ _ _ rfl (by decide) (by decide)) <|
  Chain.cons (stepAt_nullary 2276 _ _ rfl) <|
  Chain.cons (stepAt_unary 2277 _ _ _ rfl (by decide)) <|
  Chain.cons (stepAt_binary 2278 _ _ _ _ rfl (by decide) (by decide)) <|
  Chain.cons (stepAt_unary 2279 _ _ _ rfl (by decide)) <|
  Chain.cons (stepAt_unary 2280 _ _ _ rfl (by decide)) <|
  Chain.cons (stepAt_binary 2281 _ _ _ _ rfl (by decide) (by decide)) <|
  Chain.cons (stepAt_nullary 2282 _ _ rfl) <|
  Chain.cons (stepAt_unary 2283 _ _ _ rfl (by decide)) <|
  Chain.cons (stepAt_binary 2284 _ _ _ _ rfl (by decide) (by decide)) <|
  Chain.cons (stepAt_unary 2285 _ _ _ rfl (by decide)) <|
  Chain.cons (stepAt_unary 2286 _ _ _ rfl (by decide)) <|
  Chain.cons (stepAt_binary 2287 _ _ _ _ rfl (by decide) (by decide)) <|
  Chain.cons (stepAt_unary 2288 _ _ _ rfl (by decide)) <|
  Chain.cons (stepAt_unary 2289 _ _ _ rfl (by decide)) <|
  Chain.cons (stepAt_binary 2290 _ _ _ _ rfl (by decide) (by decide)) <|
  Chain.cons (stepAt_nullary 2291 _ _ rfl) <|
  Chain.cons (stepAt_unary 2292 _ _ _ rfl (by decide)) <|
  Chain.cons (stepAt_binary 2293 _ _ _ _ rfl (by decide) (by decide)) <|
  Chain.cons (stepAt_unary 2294 _ _ _ rfl (by decide)) <|
  Chain.cons (stepAt_unary 2295 _ _ _ rfl (by decide)) <|
  Chain.cons (stepAt_binary 2296 _ _ _ _ rfl (by decide) (by decide)) <|
  Chain.cons (stepAt_binary 2297 _ _ _ _ rfl (by decide) (by decide)) <|
  Chain.cons (stepAt_nullary 2298 _ _ rfl) <|
  Chain.cons (stepAt_unary 2299 _ _ _ rfl (by decide)) <|
  Chain.cons (stepAt_binary 2300 _ _ _ _ rfl (by decide) (by decide)) <|
  Chain.cons (stepAt_unary 2301 _ _ _ rfl (by decide)) <|
  Chain.cons (stepAt_unary 2302 _ _ _ rfl (by decide)) <|
  Chain.cons (stepAt_binary 2303 _ _ _ _ rfl (by decide) (by decide)) <|
  Chain.cons (stepAt_unary 2304 _ _ _ rfl (by decide)) <|
  Chain.cons (stepAt_unary 2305 _ _ _ rfl (by decide)) <|
  Chain.cons (stepAt_binary 2306 _ _ _ _ rfl (by decide) (by decide)) <|
  Chain.cons (stepAt_binary 2307 _ _ _ _ rfl (by decide) (by decide)) <|
  Chain.nil
theorem w33_length : (w33 : List (HloOp τ sig (Elt F))).length = 60 := rfl

/-- Window 34 of @main: 75 operations, writing buffers 2308 … 2382. -/
abbrev w34 : List (HloOp τ sig (Elt F)) :=
  [ StableHlo.unary main_v1462 main_v1558 (broadcastInDim S1x131072 ![1] bcast_S131072_S1x131072_1 : (⟨S131072, .f32⟩ : BufTy).Contents (Elt F) → (⟨S1x131072, .f32⟩ : BufTy).Contents (Elt F)),
    StableHlo.unary main_v1558 main_v1559 (broadcastInDim S32x131072 ![0, 1] bcast_S1x131072_S32x131072_0_1 : (⟨S1x131072, .f32⟩ : BufTy).Contents (Elt F) → (⟨S32x131072, .f32⟩ : BufTy).Contents (Elt F)),
    StableHlo.binary main_v1529 main_v1559 main_v1560 (mulf : (⟨S32x131072, .f32⟩ : BufTy).Contents (Elt F) → (⟨S32x131072, .f32⟩ : BufTy).Contents (Elt F) → (⟨S32x131072, .f32⟩ : BufTy).Contents (Elt F)),
    StableHlo.unary main_v1463 main_v1561 (broadcastInDim S1x131072 ![1] bcast_S131072_S1x131072_1 : (⟨S131072, .f32⟩ : BufTy).Contents (Elt F) → (⟨S1x131072, .f32⟩ : BufTy).Contents (Elt F)),
    StableHlo.unary main_v1561 main_v1562 (broadcastInDim S32x131072 ![0, 1] bcast_S1x131072_S32x131072_0_1 : (⟨S1x131072, .f32⟩ : BufTy).Contents (Elt F) → (⟨S32x131072, .f32⟩ : BufTy).Contents (Elt F)),
    StableHlo.binary main_v1560 main_v1562 main_v1563 (mulf : (⟨S32x131072, .f32⟩ : BufTy).Contents (Elt F) → (⟨S32x131072, .f32⟩ : BufTy).Contents (Elt F) → (⟨S32x131072, .f32⟩ : BufTy).Contents (Elt F)),
    StableHlo.binary main_v1557 main_v1563 main_v1564 (addf : (⟨S32x131072, .f32⟩ : BufTy).Contents (Elt F) → (⟨S32x131072, .f32⟩ : BufTy).Contents (Elt F) → (⟨S32x131072, .f32⟩ : BufTy).Contents (Elt F)),
    StableHlo.unary main_v1564 main_v1565 ((transpose S131072x32 [1, 0] · transposes_S32x131072_S131072x32_1_0) : (⟨S32x131072, .f32⟩ : BufTy).Contents (Elt F) → (⟨S131072x32, .f32⟩ : BufTy).Contents (Elt F)),
    StableHlo.binary main_v1436 main_v1565 main_v1566 (mulf : (⟨S131072x32, .f32⟩ : BufTy).Contents (Elt F) → (⟨S131072x32, .f32⟩ : BufTy).Contents (Elt F) → (⟨S131072x32, .f32⟩ : BufTy).Contents (Elt F)),
    StableHlo.nullary main_c_480 (constantI S_ 32 0#32),
    StableHlo.unary main_c_480 main_v1567 (broadcastInDim S2 ![] bcast_S_S2 : (⟨S_, .i32⟩ : BufTy).Contents (Elt F) → (⟨S2, .i32⟩ : BufTy).Contents (Elt F)),
    StableHlo.binary main_c_11 main_v1567 main_v1568 (cmpi .slt : (⟨S2, .i32⟩ : BufTy).Contents (Elt F) → (⟨S2, .i32⟩ : BufTy).Contents (Elt F) → (⟨S2, .i1⟩ : BufTy).Contents (Elt F)),
    StableHlo.nullary main_c_481 (constantI S_ 32 4#32),
    StableHlo.unary main_c_481 main_v1569 (broadcastInDim S2 ![] bcast_S_S2 : (⟨S_, .i32⟩ : BufTy).Contents (Elt F) → (⟨S2, .i32⟩ : BufTy).Contents (Elt F)),
    StableHlo.binary main_c_11 main_v1569 main_v1570 (addi : (⟨S2, .i32⟩ : BufTy).Contents (Elt F) → (⟨S2, .i32⟩ : BufTy).Contents (Elt F) → (⟨S2, .i32⟩ : BufTy).Contents (Elt F)),
    StableHlo.ternary main_v1568 main_v1570 main_c_11 main_v1571 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1571 main_v1572 (broadcastInDim S2x1 ![0] bcast_S2_S2x1_0 : (⟨S2, .i32⟩ : BufTy).Contents (Elt F) → (⟨S2x1, .i32⟩ : BufTy).Contents (Elt F)),
    StableHlo.binary main_v8 main_v1572 main_v1573 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1573 main_v1574 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1574 main_v1575 rfl shapeCasts_S131072x1_S131072,
    StableHlo.nullary main_cst_482 (constant S_ .f32 0x3F800000#32),
    StableHlo.unary main_cst_482 main_v1576 (broadcastInDim S131072 ![] bcast_S_S131072 : (⟨S_, .f32⟩ : BufTy).Contents (Elt F) → (⟨S131072, .f32⟩ : BufTy).Contents (Elt F)),
    StableHlo.binary main_v1575 main_v1576 main_v1577 (addf : (⟨S131072, .f32⟩ : BufTy).Contents (Elt F) → (⟨S131072, .f32⟩ : BufTy).Contents (Elt F) → (⟨S131072, .f32⟩ : BufTy).Contents (Elt F)),
    StableHlo.nullary main_cst_483 (constant S_ .f32 0x3F000000#32),
    StableHlo.unary main_cst_483 main_v1578 (broadcastInDim S131072 ![] bcast_S_S131072 : (⟨S_, .f32⟩ : BufTy).Contents (Elt F) → (⟨S131072, .f32⟩ : BufTy).Contents (Elt F)),
    StableHlo.binary main_v1577 main_v1578 main_v1579 (mulf : (⟨S131072, .f32⟩ : BufTy).Contents (Elt F) → (⟨S131072, .f32⟩ : BufTy).Contents (Elt F) → (⟨S131072, .f32⟩ : BufTy).Contents (Elt F)),
    StableHlo.nullary main_cst_484 (constant S_ .f32 0x437F0000#32),
    StableHlo.unary main_cst_484 main_v1580 (broadcastInDim S131072 ![] bcast_S_S131072 : (⟨S_, .f32⟩ : BufTy).Contents (Elt F) → (⟨S131072, .f32⟩ : BufTy).Contents (Elt F)),
    StableHlo.binary main_v1579 main_v1580 main_v1581 (mulf : (⟨S131072, .f32⟩ : BufTy).Contents (Elt F) → (⟨S131072, .f32⟩ : BufTy).Contents (Elt F) → (⟨S131072, .f32⟩ : BufTy).Contents (Elt F)),
    StableHlo.unary main_v1573 main_v1582 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1582 main_v1583 rfl shapeCasts_S131072x1_S131072,
    StableHlo.nullary main_cst_485 (constant S_ .f32 0x3F800000#32),
    StableHlo.unary main_cst_485 main_v1584 (broadcastInDim S131072 ![] bcast_S_S131072 : (⟨S_, .f32⟩ : BufTy).Contents (Elt F) → (⟨S131072, .f32⟩ : BufTy).Contents (Elt F)),
    StableHlo.binary main_v1583 main_v1584 main_v1585 (addf : (⟨S131072, .f32⟩ : BufTy).Contents (Elt F) → (⟨S131072, .f32⟩ : BufTy).Contents (Elt F) → (⟨S131072, .f32⟩ : BufTy).Contents (Elt F)),
    StableHlo.nullary main_cst_486 (constant S_ .f32 0x3F000000#32),
    StableHlo.unary main_cst_486 main_v1586 (broadcastInDim S131072 ![] bcast_S_S131072 : (⟨S_, .f32⟩ : BufTy).Contents (Elt F) → (⟨S131072, .f32⟩ : BufTy).Contents (Elt F)),
    StableHlo.binary main_v1585 main_v1586 main_v1587 (mulf : (⟨S131072, .f32⟩ : BufTy).Contents (Elt F) → (⟨S131072, .f32⟩ : BufTy).Contents (Elt F) → (⟨S131072, .f32⟩ : BufTy).Contents (Elt F)),
    StableHlo.nullary main_cst_487 (constant S_ .f32 0x437F0000#32),
    StableHlo.unary main_cst_487 main_v1588 (broadcastInDim S131072 ![] bcast_S_S131072 : (⟨S_, .f32⟩ : BufTy).Contents (Elt F) → (⟨S131072, .f32⟩ : BufTy).Contents (Elt F)),
    StableHlo.binary main_v1587 main_v1588 main_v1589 (mulf : (⟨S131072, .f32⟩ : BufTy).Contents (Elt F) → (⟨S131072, .f32⟩ : BufTy).Contents (Elt F) → (⟨S131072, .f32⟩ : BufTy).Contents (Elt F)),
    StableHlo.unary main_v1581 main_v1590 (Host.floor : (⟨S131072, .f32⟩ : BufTy).Contents (Elt F) → (⟨S131072, .f32⟩ : BufTy).Contents (Elt F)),
    StableHlo.unary main_v1589 main_v1591 (Host.floor : (⟨S131072, .f32⟩ : BufTy).Contents (Elt F) → (⟨S131072, .f32⟩ : BufTy).Contents (Elt F)),
    StableHlo.binary main_v1581 main_v1590 main_v1592 (subf : (⟨S131072, .f32⟩ : BufTy).Contents (Elt F) → (⟨S131072, .f32⟩ : BufTy).Contents (Elt F) → (⟨S131072, .f32⟩ : BufTy).Contents (Elt F)),
    StableHlo.binary main_v1589 main_v1591 main_v1593 (subf : (⟨S131072, .f32⟩ : BufTy).Contents (Elt F) → (⟨S131072, .f32⟩ : BufTy).Contents (Elt F) → (⟨S131072, .f32⟩ : BufTy).Contents (Elt F)),
    StableHlo.unary main_v1590 main_v1594 (fptosi 32 : (⟨S131072, .f32⟩ : BufTy).Contents (Elt F) → (⟨S131072, .i32⟩ : BufTy).Contents (Elt F)),
    StableHlo.nullary main_c_488 (constantI S_ 32 0#32),
    StableHlo.nullary main_c_489 (constantI S_ 32 255#32),
    StableHlo.TRef.unary (.of main_c_488) main_call48.v0 id,
    StableHlo.TRef.unary main_call48.v0 main_call48.v1 (broadcastInDim S131072 ![] bcast_S_S131072),
    StableHlo.TRef.binary main_call48.v1 (.of main_v1594) main_call48.v2 maxsi,
    StableHlo.TRef.unary (.of main_c_489) main_call48.v3 id,
    StableHlo.TRef.unary main_call48.v3 main_call48.v4 (broadcastInDim S131072 ![] bcast_S_S131072),
    StableHlo.TRef.binary main_call48.v4 main_call48.v2 main_call48.v5 minsi,
    StableHlo.nullary main_c_490 (constantI S_ 32 1#32),
    StableHlo.unary main_c_490 main_v1596 (broadcastInDim S131072 ![] bcast_S_S131072 : (⟨S_, .i32⟩ : BufTy).Contents (Elt F) → (⟨S131072, .i32⟩ : BufTy).Contents (Elt F)),
    StableHlo.binary main_v1595 main_v1596 main_v1597 (addi : (⟨S131072, .i32⟩ : BufTy).Contents (Elt F) → (⟨S131072, .i32⟩ : BufTy).Contents (Elt F) → (⟨S131072, .i32⟩ : BufTy).Contents (Elt F)),
    StableHlo.nullary main_c_491 (constantI S_ 32 0#32),
    StableHlo.nullary main_c_492 (constantI S_ 32 255#32),
    StableHlo.TRef.unary (.of main_c_491) main_call49.v0 id,
    StableHlo.TRef.unary main_call49.v0 main_call49.v1 (broadcastInDim S131072 ![] bcast_S_S131072),
    StableHlo.TRef.binary main_call49.v1 (.of main_v1597) main_call49.v2 maxsi,
    StableHlo.TRef.unary (.of main_c_492) main_call49.v3 id,
    StableHlo.TRef.unary main_call49.v3 main_call49.v4 (broadcastInDim S131072 ![] bcast_S_S131072),
    StableHlo.TRef.binary main_call49.v4 main_call49.v2 main_call49.v5 minsi,
    StableHlo.unary main_v1591 main_v1599 (fptosi 32 : (⟨S131072, .f32⟩ : BufTy).Contents (Elt F) → (⟨S131072, .i32⟩ : BufTy).Contents (Elt F)),
    StableHlo.nullary main_c_493 (constantI S_ 32 0#32),
    StableHlo.nullary main_c_494 (constantI S_ 32 255#32),
    StableHlo.TRef.unary (.of main_c_493) main_call50.v0 id,
    StableHlo.TRef.unary main_call50.v0 main_call50.v1 (broadcastInDim S131072 ![] bcast_S_S131072),
    StableHlo.TRef.binary main_call50.v1 (.of main_v1599) main_call50.v2 maxsi,
    StableHlo.TRef.unary (.of main_c_494) main_call50.v3 id,
    StableHlo.TRef.unary main_call50.v3 main_call50.v4 (broadcastInDim S131072 ![] bcast_S_S131072),
    StableHlo.TRef.binary main_call50.v4 main_call50.v2 main_call50.v5 minsi,
    StableHlo.nullary main_c_495 (constantI S_ 32 1#32),
    StableHlo.unary main_c_495 main_v1601 (broadcastInDim S131072 ![] bcast_S_S131072 : (⟨S_, .i32⟩ : BufTy).Contents (Elt F) → (⟨S131072, .i32⟩ : BufTy).Contents (Elt F)) ]
theorem w34_eq (c : Dev nD) : main_part34 (F := F) c = seq w34 := rfl
theorem w34_sub : (w34 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub ..⟩
theorem w34_fresh : (w34 : List (HloOp τ sig (Elt F))).Forall fun op => op.fresh = ∅ := by
  simp only [List.Forall]; repeat' constructor
set_option maxHeartbeats 4000000 in
theorem w34_chain : Chain 2308 (w34 : List (HloOp τ sig (Elt F))) :=
  Chain.cons (stepAt_unary 2308 _ _ _ rfl (by decide)) <|
  Chain.cons (stepAt_unary 2309 _ _ _ rfl (by decide)) <|
  Chain.cons (stepAt_binary 2310 _ _ _ _ rfl (by decide) (by decide)) <|
  Chain.cons (stepAt_unary 2311 _ _ _ rfl (by decide)) <|
  Chain.cons (stepAt_unary 2312 _ _ _ rfl (by decide)) <|
  Chain.cons (stepAt_binary 2313 _ _ _ _ rfl (by decide) (by decide)) <|
  Chain.cons (stepAt_binary 2314 _ _ _ _ rfl (by decide) (by decide)) <|
  Chain.cons (stepAt_unary 2315 _ _ _ rfl (by decide)) <|
  Chain.cons (stepAt_binary 2316 _ _ _ _ rfl (by decide) (by decide)) <|
  Chain.cons (stepAt_nullary 2317 _ _ rfl) <|
  Chain.cons (stepAt_unary 2318 _ _ _ rfl (by decide)) <|
  Chain.cons (stepAt_binary 2319 _ _ _ _ rfl (by decide) (by decide)) <|
  Chain.cons (stepAt_nullary 2320 _ _ rfl) <|
  Chain.cons (stepAt_unary 2321 _ _ _ rfl (by decide)) <|
  Chain.cons (stepAt_binary 2322 _ _ _ _ rfl (by decide) (by decide)) <|
  Chain.cons (stepAt_ternary 2323 _ _ _ _ _ rfl (by decide) (by decide) (by decide)) <|
  Chain.cons (stepAt_unary 2324 _ _ _ rfl (by decide)) <|
  Chain.cons (stepAt_binary 2325 _ _ _ _ rfl (by decide) (by decide)) <|
  Chain.cons (stepAt_unary 2326 _ _ _ rfl (by decide)) <|
  Chain.cons (stepAt_reshape 2327 _ _ _ _ rfl (by decide)) <|
  Chain.cons (stepAt_nullary 2328 _ _ rfl) <|
  Chain.cons (stepAt_unary 2329 _ _ _ rfl (by decide)) <|
  Chain.cons (stepAt_binary 2330 _ _ _ _ rfl (by decide) (by decide)) <|
  Chain.cons (stepAt_nullary 2331 _ _ rfl) <|
  Chain.cons (stepAt_unary 2332 _ _ _ rfl (by decide)) <|
  Chain.cons (stepAt_binary 2333 _ _ _ _ rfl (by decide) (by decide)) <|
  Chain.cons (stepAt_nullary 2334 _ _ rfl) <|
  Chain.cons (stepAt_unary 2335 _ _ _ rfl (by decide)) <|
  Chain.cons (stepAt_binary 2336 _ _ _ _ rfl (by decide) (by decide)) <|
  Chain.cons (stepAt_unary 2337 _ _ _ rfl (by decide)) <|
  Chain.cons (stepAt_reshape 2338 _ _ _ _ rfl (by decide)) <|
  Chain.cons (stepAt_nullary 2339 _ _ rfl) <|
  Chain.cons (stepAt_unary 2340 _ _ _ rfl (by decide)) <|
  Chain.cons (stepAt_binary 2341 _ _ _ _ rfl (by decide) (by decide)) <|
  Chain.cons (stepAt_nullary 2342 _ _ rfl) <|
  Chain.cons (stepAt_unary 2343 _ _ _ rfl (by decide)) <|
  Chain.cons (stepAt_binary 2344 _ _ _ _ rfl (by decide) (by decide)) <|
  Chain.cons (stepAt_nullary 2345 _ _ rfl) <|
  Chain.cons (stepAt_unary 2346 _ _ _ rfl (by decide)) <|
  Chain.cons (stepAt_binary 2347 _ _ _ _ rfl (by decide) (by decide)) <|
  Chain.cons (stepAt_unary 2348 _ _ _ rfl (by decide)) <|
  Chain.cons (stepAt_unary 2349 _ _ _ rfl (by decide)) <|
  Chain.cons (stepAt_binary 2350 _ _ _ _ rfl (by decide) (by decide)) <|
  Chain.cons (stepAt_binary 2351 _ _ _ _ rfl (by decide) (by decide)) <|
  Chain.cons (stepAt_unary 2352 _ _ _ rfl (by decide)) <|
  Chain.cons (stepAt_nullary 2353 _ _ rfl) <|
  Chain.cons (stepAt_nullary 2354 _ _ rfl) <|
  Chain.cons (stepAt_unary 2355 _ _ _ rfl (by decide)) <|
  Chain.cons (stepAt_unary 2356 _ _ _ rfl (by decide)) <|
  Chain.cons (stepAt_binary 2357 _ _ _ _ rfl (by decide) (by decide)) <|
  Chain.cons (stepAt_unary 2358 _ _ _ rfl (by decide)) <|
  Chain.cons (stepAt_unary 2359 _ _ _ rfl (by decide)) <|
  Chain.cons (stepAt_binary 2360 _ _ _ _ rfl (by decide) (by decide)) <|
  Chain.cons (stepAt_nullary 2361 _ _ rfl) <|
  Chain.cons (stepAt_unary 2362 _ _ _ rfl (by decide)) <|
  Chain.cons (stepAt_binary 2363 _ _ _ _ rfl (by decide) (by decide)) <|
  Chain.cons (stepAt_nullary 2364 _ _ rfl) <|
  Chain.cons (stepAt_nullary 2365 _ _ rfl) <|
  Chain.cons (stepAt_unary 2366 _ _ _ rfl (by decide)) <|
  Chain.cons (stepAt_unary 2367 _ _ _ rfl (by decide)) <|
  Chain.cons (stepAt_binary 2368 _ _ _ _ rfl (by decide) (by decide)) <|
  Chain.cons (stepAt_unary 2369 _ _ _ rfl (by decide)) <|
  Chain.cons (stepAt_unary 2370 _ _ _ rfl (by decide)) <|
  Chain.cons (stepAt_binary 2371 _ _ _ _ rfl (by decide) (by decide)) <|
  Chain.cons (stepAt_unary 2372 _ _ _ rfl (by decide)) <|
  Chain.cons (stepAt_nullary 2373 _ _ rfl) <|
  Chain.cons (stepAt_nullary 2374 _ _ rfl) <|
  Chain.cons (stepAt_unary 2375 _ _ _ rfl (by decide)) <|
  Chain.cons (stepAt_unary 2376 _ _ _ rfl (by decide)) <|
  Chain.cons (stepAt_binary 2377 _ _ _ _ rfl (by decide) (by decide)) <|
  Chain.cons (stepAt_unary 2378 _ _ _ rfl (by decide)) <|
  Chain.cons (stepAt_unary 2379 _ _ _ rfl (by decide)) <|
  Chain.cons (stepAt_binary 2380 _ _ _ _ rfl (by decide) (by decide)) <|
  Chain.cons (stepAt_nullary 2381 _ _ rfl) <|
  Chain.cons (stepAt_unary 2382 _ _ _ rfl (by decide)) <|
  Chain.nil
theorem w34_length : (w34 : List (HloOp τ sig (Elt F))).length = 75 := rfl

/-- Window 35 of @main: 65 operations, writing buffers 2383 … 2447. -/
abbrev w35 : List (HloOp τ sig (Elt F)) :=
  [ StableHlo.binary main_v1600 main_v1601 main_v1602 (addi : (⟨S131072, .i32⟩ : BufTy).Contents (Elt F) → (⟨S131072, .i32⟩ : BufTy).Contents (Elt F) → (⟨S131072, .i32⟩ : BufTy).Contents (Elt F)),
    StableHlo.nullary main_c_496 (constantI S_ 32 0#32),
    StableHlo.nullary main_c_497 (constantI S_ 32 255#32),
    StableHlo.TRef.unary (.of main_c_496) main_call51.v0 id,
    StableHlo.TRef.unary main_call51.v0 main_call51.v1 (broadcastInDim S131072 ![] bcast_S_S131072),
    StableHlo.TRef.binary main_call51.v1 (.of main_v1602) main_call51.v2 maxsi,
    StableHlo.TRef.unary (.of main_c_497) main_call51.v3 id,
    StableHlo.TRef.unary main_call51.v3 main_call51.v4 (broadcastInDim S131072 ![] bcast_S_S131072),
    StableHlo.TRef.binary main_call51.v4 main_call51.v2 main_call51.v5 minsi,
    StableHlo.nullary main_c_498 (constantI S_ 32 0#32),
    StableHlo.unary main_c_498 main_v1604 (broadcastInDim S131072 ![] bcast_S_S131072 : (⟨S_, .i32⟩ : BufTy).Contents (Elt F) → (⟨S131072, .i32⟩ : BufTy).Contents (Elt F)),
    StableHlo.binary main_v1600 main_v1604 main_v1605 (cmpi .slt : (⟨S131072, .i32⟩ : BufTy).Contents (Elt F) → (⟨S131072, .i32⟩ : BufTy).Contents (Elt F) → (⟨S131072, .i1⟩ : BufTy).Contents (Elt F)),
    StableHlo.nullary main_c_499 (constantI S_ 32 256#32),
    StableHlo.unary main_c_499 main_v1606 (broadcastInDim S131072 ![] bcast_S_S131072 : (⟨S_, .i32⟩ : BufTy).Contents (Elt F) → (⟨S131072, .i32⟩ : BufTy).Contents (Elt F)),
    StableHlo.binary main_v1600 main_v1606 main_v1607 (addi : (⟨S131072, .i32⟩ : BufTy).Contents (Elt F) → (⟨S131072, .i32⟩ : BufTy).Contents (Elt F) → (⟨S131072, .i32⟩ : BufTy).Contents (Elt F)),
    StableHlo.ternary main_v1605 main_v1607 main_v1600 main_v1608 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_500 (constantI S_ 32 0#32),
    StableHlo.unary main_c_500 main_v1609 (broadcastInDim S131072 ![] bcast_S_S131072 : (⟨S_, .i32⟩ : BufTy).Contents (Elt F) → (⟨S131072, .i32⟩ : BufTy).Contents (Elt F)),
    StableHlo.binary main_v1595 main_v1609 main_v1610 (cmpi .slt : (⟨S131072, .i32⟩ : BufTy).Contents (Elt F) → (⟨S131072, .i32⟩ : BufTy).Contents (Elt F) → (⟨S131072, .i1⟩ : BufTy).Contents (Elt F)),
    StableHlo.nullary main_c_501 (constantI S_ 32 256#32),
    StableHlo.unary main_c_501 main_v1611 (broadcastInDim S131072 ![] bcast_S_S131072 : (⟨S_, .i32⟩ : BufTy).Contents (Elt F) → (⟨S131072, .i32⟩ : BufTy).Contents (Elt F)),
    StableHlo.binary main_v1595 main_v1611 main_v1612 (addi : (⟨S131072, .i32⟩ : BufTy).Contents (Elt F) → (⟨S131072, .i32⟩ : BufTy).Contents (Elt F) → (⟨S131072, .i32⟩ : BufTy).Contents (Elt F)),
    StableHlo.ternary main_v1610 main_v1612 main_v1595 main_v1613 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1608 main_v1614 (broadcastInDim S131072x1 ![0] bcast_S131072_S131072x1_0 : (⟨S131072, .i32⟩ : BufTy).Contents (Elt F) → (⟨S131072x1, .i32⟩ : BufTy).Contents (Elt F)),
    StableHlo.unary main_v1613 main_v1615 (broadcastInDim S131072x1 ![0] bcast_S131072_S131072x1_0 : (⟨S131072, .i32⟩ : BufTy).Contents (Elt F) → (⟨S131072x1, .i32⟩ : BufTy).Contents (Elt F)),
    StableHlo.binary main_v1614 main_v1615 main_v1616 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg14 main_v1616 main_v1617 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_502 (constantI S_ 32 0#32),
    StableHlo.unary main_c_502 main_v1618 (broadcastInDim S131072 ![] bcast_S_S131072 : (⟨S_, .i32⟩ : BufTy).Contents (Elt F) → (⟨S131072, .i32⟩ : BufTy).Contents (Elt F)),
    StableHlo.binary main_v1600 main_v1618 main_v1619 (cmpi .slt : (⟨S131072, .i32⟩ : BufTy).Contents (Elt F) → (⟨S131072, .i32⟩ : BufTy).Contents (Elt F) → (⟨S131072, .i1⟩ : BufTy).Contents (Elt F)),
    StableHlo.nullary main_c_503 (constantI S_ 32 256#32),
    StableHlo.unary main_c_503 main_v1620 (broadcastInDim S131072 ![] bcast_S_S131072 : (⟨S_, .i32⟩ : BufTy).Contents (Elt F) → (⟨S131072, .i32⟩ : BufTy).Contents (Elt F)),
    StableHlo.binary main_v1600 main_v1620 main_v1621 (addi : (⟨S131072, .i32⟩ : BufTy).Contents (Elt F) → (⟨S131072, .i32⟩ : BufTy).Contents (Elt F) → (⟨S131072, .i32⟩ : BufTy).Contents (Elt F)),
    StableHlo.ternary main_v1619 main_v1621 main_v1600 main_v1622 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_504 (constantI S_ 32 0#32),
    StableHlo.unary main_c_504 main_v1623 (broadcastInDim S131072 ![] bcast_S_S131072 : (⟨S_, .i32⟩ : BufTy).Contents (Elt F) → (⟨S131072, .i32⟩ : BufTy).Contents (Elt F)),
    StableHlo.binary main_v1598 main_v1623 main_v1624 (cmpi .slt : (⟨S131072, .i32⟩ : BufTy).Contents (Elt F) → (⟨S131072, .i32⟩ : BufTy).Contents (Elt F) → (⟨S131072, .i1⟩ : BufTy).Contents (Elt F)),
    StableHlo.nullary main_c_505 (constantI S_ 32 256#32),
    StableHlo.unary main_c_505 main_v1625 (broadcastInDim S131072 ![] bcast_S_S131072 : (⟨S_, .i32⟩ : BufTy).Contents (Elt F) → (⟨S131072, .i32⟩ : BufTy).Contents (Elt F)),
    StableHlo.binary main_v1598 main_v1625 main_v1626 (addi : (⟨S131072, .i32⟩ : BufTy).Contents (Elt F) → (⟨S131072, .i32⟩ : BufTy).Contents (Elt F) → (⟨S131072, .i32⟩ : BufTy).Contents (Elt F)),
    StableHlo.ternary main_v1624 main_v1626 main_v1598 main_v1627 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1622 main_v1628 (broadcastInDim S131072x1 ![0] bcast_S131072_S131072x1_0 : (⟨S131072, .i32⟩ : BufTy).Contents (Elt F) → (⟨S131072x1, .i32⟩ : BufTy).Contents (Elt F)),
    StableHlo.unary main_v1627 main_v1629 (broadcastInDim S131072x1 ![0] bcast_S131072_S131072x1_0 : (⟨S131072, .i32⟩ : BufTy).Contents (Elt F) → (⟨S131072x1, .i32⟩ : BufTy).Contents (Elt F)),
    StableHlo.binary main_v1628 main_v1629 main_v1630 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg14 main_v1630 main_v1631 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_506 (constantI S_ 32 0#32),
    StableHlo.unary main_c_506 main_v1632 (broadcastInDim S131072 ![] bcast_S_S131072 : (⟨S_, .i32⟩ : BufTy).Contents (Elt F) → (⟨S131072, .i32⟩ : BufTy).Contents (Elt F)),
    StableHlo.binary main_v1603 main_v1632 main_v1633 (cmpi .slt : (⟨S131072, .i32⟩ : BufTy).Contents (Elt F) → (⟨S131072, .i32⟩ : BufTy).Contents (Elt F) → (⟨S131072, .i1⟩ : BufTy).Contents (Elt F)),
    StableHlo.nullary main_c_507 (constantI S_ 32 256#32),
    StableHlo.unary main_c_507 main_v1634 (broadcastInDim S131072 ![] bcast_S_S131072 : (⟨S_, .i32⟩ : BufTy).Contents (Elt F) → (⟨S131072, .i32⟩ : BufTy).Contents (Elt F)),
    StableHlo.binary main_v1603 main_v1634 main_v1635 (addi : (⟨S131072, .i32⟩ : BufTy).Contents (Elt F) → (⟨S131072, .i32⟩ : BufTy).Contents (Elt F) → (⟨S131072, .i32⟩ : BufTy).Contents (Elt F)),
    StableHlo.ternary main_v1633 main_v1635 main_v1603 main_v1636 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_508 (constantI S_ 32 0#32),
    StableHlo.unary main_c_508 main_v1637 (broadcastInDim S131072 ![] bcast_S_S131072 : (⟨S_, .i32⟩ : BufTy).Contents (Elt F) → (⟨S131072, .i32⟩ : BufTy).Contents (Elt F)),
    StableHlo.binary main_v1595 main_v1637 main_v1638 (cmpi .slt : (⟨S131072, .i32⟩ : BufTy).Contents (Elt F) → (⟨S131072, .i32⟩ : BufTy).Contents (Elt F) → (⟨S131072, .i1⟩ : BufTy).Contents (Elt F)),
    StableHlo.nullary main_c_509 (constantI S_ 32 256#32),
    StableHlo.unary main_c_509 main_v1639 (broadcastInDim S131072 ![] bcast_S_S131072 : (⟨S_, .i32⟩ : BufTy).Contents (Elt F) → (⟨S131072, .i32⟩ : BufTy).Contents (Elt F)),
    StableHlo.binary main_v1595 main_v1639 main_v1640 (addi : (⟨S131072, .i32⟩ : BufTy).Contents (Elt F) → (⟨S131072, .i32⟩ : BufTy).Contents (Elt F) → (⟨S131072, .i32⟩ : BufTy).Contents (Elt F)),
    StableHlo.ternary main_v1638 main_v1640 main_v1595 main_v1641 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1636 main_v1642 (broadcastInDim S131072x1 ![0] bcast_S131072_S131072x1_0 : (⟨S131072, .i32⟩ : BufTy).Contents (Elt F) → (⟨S131072x1, .i32⟩ : BufTy).Contents (Elt F)),
    StableHlo.unary main_v1641 main_v1643 (broadcastInDim S131072x1 ![0] bcast_S131072_S131072x1_0 : (⟨S131072, .i32⟩ : BufTy).Contents (Elt F) → (⟨S131072x1, .i32⟩ : BufTy).Contents (Elt F)),
    StableHlo.binary main_v1642 main_v1643 main_v1644 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg14 main_v1644 main_v1645 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_510 (constantI S_ 32 0#32),
    StableHlo.unary main_c_510 main_v1646 (broadcastInDim S131072 ![] bcast_S_S131072 : (⟨S_, .i32⟩ : BufTy).Contents (Elt F) → (⟨S131072, .i32⟩ : BufTy).Contents (Elt F)) ]
theorem w35_eq (c : Dev nD) : main_part35 (F := F) c = seq w35 := rfl
theorem w35_sub : (w35 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub ..⟩
theorem w35_fresh : (w35 : List (HloOp τ sig (Elt F))).Forall fun op => op.fresh = ∅ := by
  simp only [List.Forall]; repeat' constructor
set_option maxHeartbeats 4000000 in
theorem w35_chain : Chain 2383 (w35 : List (HloOp τ sig (Elt F))) :=
  Chain.cons (stepAt_binary 2383 _ _ _ _ rfl (by decide) (by decide)) <|
  Chain.cons (stepAt_nullary 2384 _ _ rfl) <|
  Chain.cons (stepAt_nullary 2385 _ _ rfl) <|
  Chain.cons (stepAt_unary 2386 _ _ _ rfl (by decide)) <|
  Chain.cons (stepAt_unary 2387 _ _ _ rfl (by decide)) <|
  Chain.cons (stepAt_binary 2388 _ _ _ _ rfl (by decide) (by decide)) <|
  Chain.cons (stepAt_unary 2389 _ _ _ rfl (by decide)) <|
  Chain.cons (stepAt_unary 2390 _ _ _ rfl (by decide)) <|
  Chain.cons (stepAt_binary 2391 _ _ _ _ rfl (by decide) (by decide)) <|
  Chain.cons (stepAt_nullary 2392 _ _ rfl) <|
  Chain.cons (stepAt_unary 2393 _ _ _ rfl (by decide)) <|
  Chain.cons (stepAt_binary 2394 _ _ _ _ rfl (by decide) (by decide)) <|
  Chain.cons (stepAt_nullary 2395 _ _ rfl) <|
  Chain.cons (stepAt_unary 2396 _ _ _ rfl (by decide)) <|
  Chain.cons (stepAt_binary 2397 _ _ _ _ rfl (by decide) (by decide)) <|
  Chain.cons (stepAt_ternary 2398 _ _ _ _ _ rfl (by decide) (by decide) (by decide)) <|
  Chain.cons (stepAt_nullary 2399 _ _ rfl) <|
  Chain.cons (stepAt_unary 2400 _ _ _ rfl (by decide)) <|
  Chain.cons (stepAt_binary 2401 _ _ _ _ rfl (by decide) (by decide)) <|
  Chain.cons (stepAt_nullary 2402 _ _ rfl) <|
  Chain.cons (stepAt_unary 2403 _ _ _ rfl (by decide)) <|
  Chain.cons (stepAt_binary 2404 _ _ _ _ rfl (by decide) (by decide)) <|
  Chain.cons (stepAt_ternary 2405 _ _ _ _ _ rfl (by decide) (by decide) (by decide)) <|
  Chain.cons (stepAt_unary 2406 _ _ _ rfl (by decide)) <|
  Chain.cons (stepAt_unary 2407 _ _ _ rfl (by decide)) <|
  Chain.cons (stepAt_binary 2408 _ _ _ _ rfl (by decide) (by decide)) <|
  Chain.cons (stepAt_binary 2409 _ _ _ _ rfl (by decide) (by decide)) <|
  Chain.cons (stepAt_nullary 2410 _ _ rfl) <|
  Chain.cons (stepAt_unary 2411 _ _ _ rfl (by decide)) <|
  Chain.cons (stepAt_binary 2412 _ _ _ _ rfl (by decide) (by decide)) <|
  Chain.cons (stepAt_nullary 2413 _ _ rfl) <|
  Chain.cons (stepAt_unary 2414 _ _ _ rfl (by decide)) <|
  Chain.cons (stepAt_binary 2415 _ _ _ _ rfl (by decide) (by decide)) <|
  Chain.cons (stepAt_ternary 2416 _ _ _ _ _ rfl (by decide) (by decide) (by decide)) <|
  Chain.cons (stepAt_nullary 2417 _ _ rfl) <|
  Chain.cons (stepAt_unary 2418 _ _ _ rfl (by decide)) <|
  Chain.cons (stepAt_binary 2419 _ _ _ _ rfl (by decide) (by decide)) <|
  Chain.cons (stepAt_nullary 2420 _ _ rfl) <|
  Chain.cons (stepAt_unary 2421 _ _ _ rfl (by decide)) <|
  Chain.cons (stepAt_binary 2422 _ _ _ _ rfl (by decide) (by decide)) <|
  Chain.cons (stepAt_ternary 2423 _ _ _ _ _ rfl (by decide) (by decide) (by decide)) <|
  Chain.cons (stepAt_unary 2424 _ _ _ rfl (by decide)) <|
  Chain.cons (stepAt_unary 2425 _ _ _ rfl (by decide)) <|
  Chain.cons (stepAt_binary 2426 _ _ _ _ rfl (by decide) (by decide)) <|
  Chain.cons (stepAt_binary 2427 _ _ _ _ rfl (by decide) (by decide)) <|
  Chain.cons (stepAt_nullary 2428 _ _ rfl) <|
  Chain.cons (stepAt_unary 2429 _ _ _ rfl (by decide)) <|
  Chain.cons (stepAt_binary 2430 _ _ _ _ rfl (by decide) (by decide)) <|
  Chain.cons (stepAt_nullary 2431 _ _ rfl) <|
  Chain.cons (stepAt_unary 2432 _ _ _ rfl (by decide)) <|
  Chain.cons (stepAt_binary 2433 _ _ _ _ rfl (by decide) (by decide)) <|
  Chain.cons (stepAt_ternary 2434 _ _ _ _ _ rfl (by decide) (by decide) (by decide)) <|
  Chain.cons (stepAt_nullary 2435 _ _ rfl) <|
  Chain.cons (stepAt_unary 2436 _ _ _ rfl (by decide)) <|
  Chain.cons (stepAt_binary 2437 _ _ _ _ rfl (by decide) (by decide)) <|
  Chain.cons (stepAt_nullary 2438 _ _ rfl) <|
  Chain.cons (stepAt_unary 2439 _ _ _ rfl (by decide)) <|
  Chain.cons (stepAt_binary 2440 _ _ _ _ rfl (by decide) (by decide)) <|
  Chain.cons (stepAt_ternary 2441 _ _ _ _ _ rfl (by decide) (by decide) (by decide)) <|
  Chain.cons (stepAt_unary 2442 _ _ _ rfl (by decide)) <|
  Chain.cons (stepAt_unary 2443 _ _ _ rfl (by decide)) <|
  Chain.cons (stepAt_binary 2444 _ _ _ _ rfl (by decide) (by decide)) <|
  Chain.cons (stepAt_binary 2445 _ _ _ _ rfl (by decide) (by decide)) <|
  Chain.cons (stepAt_nullary 2446 _ _ rfl) <|
  Chain.cons (stepAt_unary 2447 _ _ _ rfl (by decide)) <|
  Chain.nil
theorem w35_length : (w35 : List (HloOp τ sig (Elt F))).length = 65 := rfl

/-- Window 36 of @main: 60 operations, writing buffers 2448 … 2507. -/
abbrev w36 : List (HloOp τ sig (Elt F)) :=
  [ StableHlo.binary main_v1603 main_v1646 main_v1647 (cmpi .slt : (⟨S131072, .i32⟩ : BufTy).Contents (Elt F) → (⟨S131072, .i32⟩ : BufTy).Contents (Elt F) → (⟨S131072, .i1⟩ : BufTy).Contents (Elt F)),
    StableHlo.nullary main_c_511 (constantI S_ 32 256#32),
    StableHlo.unary main_c_511 main_v1648 (broadcastInDim S131072 ![] bcast_S_S131072 : (⟨S_, .i32⟩ : BufTy).Contents (Elt F) → (⟨S131072, .i32⟩ : BufTy).Contents (Elt F)),
    StableHlo.binary main_v1603 main_v1648 main_v1649 (addi : (⟨S131072, .i32⟩ : BufTy).Contents (Elt F) → (⟨S131072, .i32⟩ : BufTy).Contents (Elt F) → (⟨S131072, .i32⟩ : BufTy).Contents (Elt F)),
    StableHlo.ternary main_v1647 main_v1649 main_v1603 main_v1650 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_512 (constantI S_ 32 0#32),
    StableHlo.unary main_c_512 main_v1651 (broadcastInDim S131072 ![] bcast_S_S131072 : (⟨S_, .i32⟩ : BufTy).Contents (Elt F) → (⟨S131072, .i32⟩ : BufTy).Contents (Elt F)),
    StableHlo.binary main_v1598 main_v1651 main_v1652 (cmpi .slt : (⟨S131072, .i32⟩ : BufTy).Contents (Elt F) → (⟨S131072, .i32⟩ : BufTy).Contents (Elt F) → (⟨S131072, .i1⟩ : BufTy).Contents (Elt F)),
    StableHlo.nullary main_c_513 (constantI S_ 32 256#32),
    StableHlo.unary main_c_513 main_v1653 (broadcastInDim S131072 ![] bcast_S_S131072 : (⟨S_, .i32⟩ : BufTy).Contents (Elt F) → (⟨S131072, .i32⟩ : BufTy).Contents (Elt F)),
    StableHlo.binary main_v1598 main_v1653 main_v1654 (addi : (⟨S131072, .i32⟩ : BufTy).Contents (Elt F) → (⟨S131072, .i32⟩ : BufTy).Contents (Elt F) → (⟨S131072, .i32⟩ : BufTy).Contents (Elt F)),
    StableHlo.ternary main_v1652 main_v1654 main_v1598 main_v1655 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1650 main_v1656 (broadcastInDim S131072x1 ![0] bcast_S131072_S131072x1_0 : (⟨S131072, .i32⟩ : BufTy).Contents (Elt F) → (⟨S131072x1, .i32⟩ : BufTy).Contents (Elt F)),
    StableHlo.unary main_v1655 main_v1657 (broadcastInDim S131072x1 ![0] bcast_S131072_S131072x1_0 : (⟨S131072, .i32⟩ : BufTy).Contents (Elt F) → (⟨S131072x1, .i32⟩ : BufTy).Contents (Elt F)),
    StableHlo.binary main_v1656 main_v1657 main_v1658 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg14 main_v1658 main_v1659 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_cst_514 (constant S_ .f32 0x3F800000#32),
    StableHlo.unary main_cst_514 main_v1660 (broadcastInDim S131072 ![] bcast_S_S131072 : (⟨S_, .f32⟩ : BufTy).Contents (Elt F) → (⟨S131072, .f32⟩ : BufTy).Contents (Elt F)),
    StableHlo.binary main_v1660 main_v1592 main_v1661 (subf : (⟨S131072, .f32⟩ : BufTy).Contents (Elt F) → (⟨S131072, .f32⟩ : BufTy).Contents (Elt F) → (⟨S131072, .f32⟩ : BufTy).Contents (Elt F)),
    StableHlo.unary main_v1661 main_v1662 (broadcastInDim S1x131072 ![1] bcast_S131072_S1x131072_1 : (⟨S131072, .f32⟩ : BufTy).Contents (Elt F) → (⟨S1x131072, .f32⟩ : BufTy).Contents (Elt F)),
    StableHlo.unary main_v1662 main_v1663 (broadcastInDim S32x131072 ![0, 1] bcast_S1x131072_S32x131072_0_1 : (⟨S1x131072, .f32⟩ : BufTy).Contents (Elt F) → (⟨S32x131072, .f32⟩ : BufTy).Contents (Elt F)),
    StableHlo.binary main_v1617 main_v1663 main_v1664 (mulf : (⟨S32x131072, .f32⟩ : BufTy).Contents (Elt F) → (⟨S32x131072, .f32⟩ : BufTy).Contents (Elt F) → (⟨S32x131072, .f32⟩ : BufTy).Contents (Elt F)),
    StableHlo.nullary main_cst_515 (constant S_ .f32 0x3F800000#32),
    StableHlo.unary main_cst_515 main_v1665 (broadcastInDim S131072 ![] bcast_S_S131072 : (⟨S_, .f32⟩ : BufTy).Contents (Elt F) → (⟨S131072, .f32⟩ : BufTy).Contents (Elt F)),
    StableHlo.binary main_v1665 main_v1593 main_v1666 (subf : (⟨S131072, .f32⟩ : BufTy).Contents (Elt F) → (⟨S131072, .f32⟩ : BufTy).Contents (Elt F) → (⟨S131072, .f32⟩ : BufTy).Contents (Elt F)),
    StableHlo.unary main_v1666 main_v1667 (broadcastInDim S1x131072 ![1] bcast_S131072_S1x131072_1 : (⟨S131072, .f32⟩ : BufTy).Contents (Elt F) → (⟨S1x131072, .f32⟩ : BufTy).Contents (Elt F)),
    StableHlo.unary main_v1667 main_v1668 (broadcastInDim S32x131072 ![0, 1] bcast_S1x131072_S32x131072_0_1 : (⟨S1x131072, .f32⟩ : BufTy).Contents (Elt F) → (⟨S32x131072, .f32⟩ : BufTy).Contents (Elt F)),
    StableHlo.binary main_v1664 main_v1668 main_v1669 (mulf : (⟨S32x131072, .f32⟩ : BufTy).Contents (Elt F) → (⟨S32x131072, .f32⟩ : BufTy).Contents (Elt F) → (⟨S32x131072, .f32⟩ : BufTy).Contents (Elt F)),
    StableHlo.unary main_v1592 main_v1670 (broadcastInDim S1x131072 ![1] bcast_S131072_S1x131072_1 : (⟨S131072, .f32⟩ : BufTy).Contents (Elt F) → (⟨S1x131072, .f32⟩ : BufTy).Contents (Elt F)),
    StableHlo.unary main_v1670 main_v1671 (broadcastInDim S32x131072 ![0, 1] bcast_S1x131072_S32x131072_0_1 : (⟨S1x131072, .f32⟩ : BufTy).Contents (Elt F) → (⟨S32x131072, .f32⟩ : BufTy).Contents (Elt F)),
    StableHlo.binary main_v1631 main_v1671 main_v1672 (mulf : (⟨S32x131072, .f32⟩ : BufTy).Contents (Elt F) → (⟨S32x131072, .f32⟩ : BufTy).Contents (Elt F) → (⟨S32x131072, .f32⟩ : BufTy).Contents (Elt F)),
    StableHlo.nullary main_cst_516 (constant S_ .f32 0x3F800000#32),
    StableHlo.unary main_cst_516 main_v1673 (broadcastInDim S131072 ![] bcast_S_S131072 : (⟨S_, .f32⟩ : BufTy).Contents (Elt F) → (⟨S131072, .f32⟩ : BufTy).Contents (Elt F)),
    StableHlo.binary main_v1673 main_v1593 main_v1674 (subf : (⟨S131072, .f32⟩ : BufTy).Contents (Elt F) → (⟨S131072, .f32⟩ : BufTy).Contents (Elt F) → (⟨S131072, .f32⟩ : BufTy).Contents (Elt F)),
    StableHlo.unary main_v1674 main_v1675 (broadcastInDim S1x131072 ![1] bcast_S131072_S1x131072_1 : (⟨S131072, .f32⟩ : BufTy).Contents (Elt F) → (⟨S1x131072, .f32⟩ : BufTy).Contents (Elt F)),
    StableHlo.unary main_v1675 main_v1676 (broadcastInDim S32x131072 ![0, 1] bcast_S1x131072_S32x131072_0_1 : (⟨S1x131072, .f32⟩ : BufTy).Contents (Elt F) → (⟨S32x131072, .f32⟩ : BufTy).Contents (Elt F)),
    StableHlo.binary main_v1672 main_v1676 main_v1677 (mulf : (⟨S32x131072, .f32⟩ : BufTy).Contents (Elt F) → (⟨S32x131072, .f32⟩ : BufTy).Contents (Elt F) → (⟨S32x131072, .f32⟩ : BufTy).Contents (Elt F)),
    StableHlo.binary main_v1669 main_v1677 main_v1678 (addf : (⟨S32x131072, .f32⟩ : BufTy).Contents (Elt F) → (⟨S32x131072, .f32⟩ : BufTy).Contents (Elt F) → (⟨S32x131072, .f32⟩ : BufTy).Contents (Elt F)),
    StableHlo.nullary main_cst_517 (constant S_ .f32 0x3F800000#32),
    StableHlo.unary main_cst_517 main_v1679 (broadcastInDim S131072 ![] bcast_S_S131072 : (⟨S_, .f32⟩ : BufTy).Contents (Elt F) → (⟨S131072, .f32⟩ : BufTy).Contents (Elt F)),
    StableHlo.binary main_v1679 main_v1592 main_v1680 (subf : (⟨S131072, .f32⟩ : BufTy).Contents (Elt F) → (⟨S131072, .f32⟩ : BufTy).Contents (Elt F) → (⟨S131072, .f32⟩ : BufTy).Contents (Elt F)),
    StableHlo.unary main_v1680 main_v1681 (broadcastInDim S1x131072 ![1] bcast_S131072_S1x131072_1 : (⟨S131072, .f32⟩ : BufTy).Contents (Elt F) → (⟨S1x131072, .f32⟩ : BufTy).Contents (Elt F)),
    StableHlo.unary main_v1681 main_v1682 (broadcastInDim S32x131072 ![0, 1] bcast_S1x131072_S32x131072_0_1 : (⟨S1x131072, .f32⟩ : BufTy).Contents (Elt F) → (⟨S32x131072, .f32⟩ : BufTy).Contents (Elt F)),
    StableHlo.binary main_v1645 main_v1682 main_v1683 (mulf : (⟨S32x131072, .f32⟩ : BufTy).Contents (Elt F) → (⟨S32x131072, .f32⟩ : BufTy).Contents (Elt F) → (⟨S32x131072, .f32⟩ : BufTy).Contents (Elt F)),
    StableHlo.unary main_v1593 main_v1684 (broadcastInDim S1x131072 ![1] bcast_S131072_S1x131072_1 : (⟨S131072, .f32⟩ : BufTy).Contents (Elt F) → (⟨S1x131072, .f32⟩ : BufTy).Contents (Elt F)),
    StableHlo.unary main_v1684 main_v1685 (broadcastInDim S32x131072 ![0, 1] bcast_S1x131072_S32x131072_0_1 : (⟨S1x131072, .f32⟩ : BufTy).Contents (Elt F) → (⟨S32x131072, .f32⟩ : BufTy).Contents (Elt F)),
    StableHlo.binary main_v1683 main_v1685 main_v1686 (mulf : (⟨S32x131072, .f32⟩ : BufTy).Contents (Elt F) → (⟨S32x131072, .f32⟩ : BufTy).Contents (Elt F) → (⟨S32x131072, .f32⟩ : BufTy).Contents (Elt F)),
    StableHlo.binary main_v1678 main_v1686 main_v1687 (addf : (⟨S32x131072, .f32⟩ : BufTy).Contents (Elt F) → (⟨S32x131072, .f32⟩ : BufTy).Contents (Elt F) → (⟨S32x131072, .f32⟩ : BufTy).Contents (Elt F)),
    StableHlo.unary main_v1592 main_v1688 (broadcastInDim S1x131072 ![1] bcast_S131072_S1x131072_1 : (⟨S131072, .f32⟩ : BufTy).Contents (Elt F) → (⟨S1x131072, .f32⟩ : BufTy).Contents (Elt F)),
    StableHlo.unary main_v1688 main_v1689 (broadcastInDim S32x131072 ![0, 1] bcast_S1x131072_S32x131072_0_1 : (⟨S1x131072, .f32⟩ : BufTy).Contents (Elt F) → (⟨S32x131072, .f32⟩ : BufTy).Contents (Elt F)),
    StableHlo.binary main_v1659 main_v1689 main_v1690 (mulf : (⟨S32x131072, .f32⟩ : BufTy).Contents (Elt F) → (⟨S32x131072, .f32⟩ : BufTy).Contents (Elt F) → (⟨S32x131072, .f32⟩ : BufTy).Contents (Elt F)),
    StableHlo.unary main_v1593 main_v1691 (broadcastInDim S1x131072 ![1] bcast_S131072_S1x131072_1 : (⟨S131072, .f32⟩ : BufTy).Contents (Elt F) → (⟨S1x131072, .f32⟩ : BufTy).Contents (Elt F)),
    StableHlo.unary main_v1691 main_v1692 (broadcastInDim S32x131072 ![0, 1] bcast_S1x131072_S32x131072_0_1 : (⟨S1x131072, .f32⟩ : BufTy).Contents (Elt F) → (⟨S32x131072, .f32⟩ : BufTy).Contents (Elt F)),
    StableHlo.binary main_v1690 main_v1692 main_v1693 (mulf : (⟨S32x131072, .f32⟩ : BufTy).Contents (Elt F) → (⟨S32x131072, .f32⟩ : BufTy).Contents (Elt F) → (⟨S32x131072, .f32⟩ : BufTy).Contents (Elt F)),
    StableHlo.binary main_v1687 main_v1693 main_v1694 (addf : (⟨S32x131072, .f32⟩ : BufTy).Contents (Elt F) → (⟨S32x131072, .f32⟩ : BufTy).Contents (Elt F) → (⟨S32x131072, .f32⟩ : BufTy).Contents (Elt F)),
    StableHlo.unary main_v1694 main_v1695 ((transpose S131072x32 [1, 0] · transposes_S32x131072_S131072x32_1_0) : (⟨S32x131072, .f32⟩ : BufTy).Contents (Elt F) → (⟨S131072x32, .f32⟩ : BufTy).Contents (Elt F)),
    StableHlo.nullary main_c_518 (constantI S_ 32 0#32),
    StableHlo.unary main_c_518 main_v1696 (broadcastInDim S2 ![] bcast_S_S2 : (⟨S_, .i32⟩ : BufTy).Contents (Elt F) → (⟨S2, .i32⟩ : BufTy).Contents (Elt F)),
    StableHlo.binary main_c_12 main_v1696 main_v1697 (cmpi .slt : (⟨S2, .i32⟩ : BufTy).Contents (Elt F) → (⟨S2, .i32⟩ : BufTy).Contents (Elt F) → (⟨S2, .i1⟩ : BufTy).Contents (Elt F)),
    StableHlo.nullary main_c_519 (constantI S_ 32 4#32) ]
theorem w36_eq (c : Dev nD) : main_part36 (F := F) c = seq w36 := rfl
theorem w36_sub : (w36 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub ..⟩
theorem w36_fresh : (w36 : List (HloOp τ sig (Elt F))).Forall fun op => op.fresh = ∅ := by
  simp only [List.Forall]; repeat' constructor
set_option maxHeartbeats 4000000 in
theorem w36_chain : Chain 2448 (w36 : List (HloOp τ sig (Elt F))) :=
  Chain.cons (stepAt_binary 2448 _ _ _ _ rfl (by decide) (by decide)) <|
  Chain.cons (stepAt_nullary 2449 _ _ rfl) <|
  Chain.cons (stepAt_unary 2450 _ _ _ rfl (by decide)) <|
  Chain.cons (stepAt_binary 2451 _ _ _ _ rfl (by decide) (by decide)) <|
  Chain.cons (stepAt_ternary 2452 _ _ _ _ _ rfl (by decide) (by decide) (by decide)) <|
  Chain.cons (stepAt_nullary 2453 _ _ rfl) <|
  Chain.cons (stepAt_unary 2454 _ _ _ rfl (by decide)) <|
  Chain.cons (stepAt_binary 2455 _ _ _ _ rfl (by decide) (by decide)) <|
  Chain.cons (stepAt_nullary 2456 _ _ rfl) <|
  Chain.cons (stepAt_unary 2457 _ _ _ rfl (by decide)) <|
  Chain.cons (stepAt_binary 2458 _ _ _ _ rfl (by decide) (by decide)) <|
  Chain.cons (stepAt_ternary 2459 _ _ _ _ _ rfl (by decide) (by decide) (by decide)) <|
  Chain.cons (stepAt_unary 2460 _ _ _ rfl (by decide)) <|
  Chain.cons (stepAt_unary 2461 _ _ _ rfl (by decide)) <|
  Chain.cons (stepAt_binary 2462 _ _ _ _ rfl (by decide) (by decide)) <|
  Chain.cons (stepAt_binary 2463 _ _ _ _ rfl (by decide) (by decide)) <|
  Chain.cons (stepAt_nullary 2464 _ _ rfl) <|
  Chain.cons (stepAt_unary 2465 _ _ _ rfl (by decide)) <|
  Chain.cons (stepAt_binary 2466 _ _ _ _ rfl (by decide) (by decide)) <|
  Chain.cons (stepAt_unary 2467 _ _ _ rfl (by decide)) <|
  Chain.cons (stepAt_unary 2468 _ _ _ rfl (by decide)) <|
  Chain.cons (stepAt_binary 2469 _ _ _ _ rfl (by decide) (by decide)) <|
  Chain.cons (stepAt_nullary 2470 _ _ rfl) <|
  Chain.cons (stepAt_unary 2471 _ _ _ rfl (by decide)) <|
  Chain.cons (stepAt_binary 2472 _ _ _ _ rfl (by decide) (by decide)) <|
  Chain.cons (stepAt_unary 2473 _ _ _ rfl (by decide)) <|
  Chain.cons (stepAt_unary 2474 _ _ _ rfl (by decide)) <|
  Chain.cons (stepAt_binary 2475 _ _ _ _ rfl (by decide) (by decide)) <|
  Chain.cons (stepAt_unary 2476 _ _ _ rfl (by decide)) <|
  Chain.cons (stepAt_unary 2477 _ _ _ rfl (by decide)) <|
  Chain.cons (stepAt_binary 2478 _ _ _ _ rfl (by decide) (by decide)) <|
  Chain.cons (stepAt_nullary 2479 _ _ rfl) <|
  Chain.cons (stepAt_unary 2480 _ _ _ rfl (by decide)) <|
  Chain.cons (stepAt_binary 2481 _ _ _ _ rfl (by decide) (by decide)) <|
  Chain.cons (stepAt_unary 2482 _ _ _ rfl (by decide)) <|
  Chain.cons (stepAt_unary 2483 _ _ _ rfl (by decide)) <|
  Chain.cons (stepAt_binary 2484 _ _ _ _ rfl (by decide) (by decide)) <|
  Chain.cons (stepAt_binary 2485 _ _ _ _ rfl (by decide) (by decide)) <|
  Chain.cons (stepAt_nullary 2486 _ _ rfl) <|
  Chain.cons (stepAt_unary 2487 _ _ _ rfl (by decide)) <|
  Chain.cons (stepAt_binary 2488 _ _ _ _ rfl (by decide) (by decide)) <|
  Chain.cons (stepAt_unary 2489 _ _ _ rfl (by decide)) <|
  Chain.cons (stepAt_unary 2490 _ _ _ rfl (by decide)) <|
  Chain.cons (stepAt_binary 2491 _ _ _ _ rfl (by decide) (by decide)) <|
  Chain.cons (stepAt_unary 2492 _ _ _ rfl (by decide)) <|
  Chain.cons (stepAt_unary 2493 _ _ _ rfl (by decide)) <|
  Chain.cons (stepAt_binary 2494 _ _ _ _ rfl (by decide) (by decide)) <|
  Chain.cons (stepAt_binary 2495 _ _ _ _ rfl (by decide) (by decide)) <|
  Chain.cons (stepAt_unary 2496 _ _ _ rfl (by decide)) <|
  Chain.cons (stepAt_unary 2497 _ _ _ rfl (by decide)) <|
  Chain.cons (stepAt_binary 2498 _ _ _ _ rfl (by decide) (by decide)) <|
  Chain.cons (stepAt_unary 2499 _ _ _ rfl (by decide)) <|
  Chain.cons (stepAt_unary 2500 _ _ _ rfl (by decide)) <|
  Chain.cons (stepAt_binary 2501 _ _ _ _ rfl (by decide) (by decide)) <|
  Chain.cons (stepAt_binary 2502 _ _ _ _ rfl (by decide) (by decide)) <|
  Chain.cons (stepAt_unary 2503 _ _ _ rfl (by decide)) <|
  Chain.cons (stepAt_nullary 2504 _ _ rfl) <|
  Chain.cons (stepAt_unary 2505 _ _ _ rfl (by decide)) <|
  Chain.cons (stepAt_binary 2506 _ _ _ _ rfl (by decide) (by decide)) <|
  Chain.cons (stepAt_nullary 2507 _ _ rfl) <|
  Chain.nil
theorem w36_length : (w36 : List (HloOp τ sig (Elt F))).length = 60 := rfl

/-- Window 37 of @main: 80 operations, writing buffers 2508 … 2587. -/
abbrev w37 : List (HloOp τ sig (Elt F)) :=
  [ StableHlo.unary main_c_519 main_v1698 (broadcastInDim S2 ![] bcast_S_S2 : (⟨S_, .i32⟩ : BufTy).Contents (Elt F) → (⟨S2, .i32⟩ : BufTy).Contents (Elt F)),
    StableHlo.binary main_c_12 main_v1698 main_v1699 (addi : (⟨S2, .i32⟩ : BufTy).Contents (Elt F) → (⟨S2, .i32⟩ : BufTy).Contents (Elt F) → (⟨S2, .i32⟩ : BufTy).Contents (Elt F)),
    StableHlo.ternary main_v1697 main_v1699 main_c_12 main_v1700 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1700 main_v1701 (broadcastInDim S2x1 ![0] bcast_S2_S2x1_0 : (⟨S2, .i32⟩ : BufTy).Contents (Elt F) → (⟨S2x1, .i32⟩ : BufTy).Contents (Elt F)),
    StableHlo.binary main_v8 main_v1701 main_v1702 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1702 main_v1703 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1703 main_v1704 rfl shapeCasts_S131072x1_S131072,
    StableHlo.nullary main_cst_520 (constant S_ .f32 0x3F800000#32),
    StableHlo.unary main_cst_520 main_v1705 (broadcastInDim S131072 ![] bcast_S_S131072 : (⟨S_, .f32⟩ : BufTy).Contents (Elt F) → (⟨S131072, .f32⟩ : BufTy).Contents (Elt F)),
    StableHlo.binary main_v1704 main_v1705 main_v1706 (addf : (⟨S131072, .f32⟩ : BufTy).Contents (Elt F) → (⟨S131072, .f32⟩ : BufTy).Contents (Elt F) → (⟨S131072, .f32⟩ : BufTy).Contents (Elt F)),
    StableHlo.nullary main_cst_521 (constant S_ .f32 0x3F000000#32),
    StableHlo.unary main_cst_521 main_v1707 (broadcastInDim S131072 ![] bcast_S_S131072 : (⟨S_, .f32⟩ : BufTy).Contents (Elt F) → (⟨S131072, .f32⟩ : BufTy).Contents (Elt F)),
    StableHlo.binary main_v1706 main_v1707 main_v1708 (mulf : (⟨S131072, .f32⟩ : BufTy).Contents (Elt F) → (⟨S131072, .f32⟩ : BufTy).Contents (Elt F) → (⟨S131072, .f32⟩ : BufTy).Contents (Elt F)),
    StableHlo.nullary main_cst_522 (constant S_ .f32 0x437F0000#32),
    StableHlo.unary main_cst_522 main_v1709 (broadcastInDim S131072 ![] bcast_S_S131072 : (⟨S_, .f32⟩ : BufTy).Contents (Elt F) → (⟨S131072, .f32⟩ : BufTy).Contents (Elt F)),
    StableHlo.binary main_v1708 main_v1709 main_v1710 (mulf : (⟨S131072, .f32⟩ : BufTy).Contents (Elt F) → (⟨S131072, .f32⟩ : BufTy).Contents (Elt F) → (⟨S131072, .f32⟩ : BufTy).Contents (Elt F)),
    StableHlo.unary main_v1702 main_v1711 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1711 main_v1712 rfl shapeCasts_S131072x1_S131072,
    StableHlo.nullary main_cst_523 (constant S_ .f32 0x3F800000#32),
    StableHlo.unary main_cst_523 main_v1713 (broadcastInDim S131072 ![] bcast_S_S131072 : (⟨S_, .f32⟩ : BufTy).Contents (Elt F) → (⟨S131072, .f32⟩ : BufTy).Contents (Elt F)),
    StableHlo.binary main_v1712 main_v1713 main_v1714 (addf : (⟨S131072, .f32⟩ : BufTy).Contents (Elt F) → (⟨S131072, .f32⟩ : BufTy).Contents (Elt F) → (⟨S131072, .f32⟩ : BufTy).Contents (Elt F)),
    StableHlo.nullary main_cst_524 (constant S_ .f32 0x3F000000#32),
    StableHlo.unary main_cst_524 main_v1715 (broadcastInDim S131072 ![] bcast_S_S131072 : (⟨S_, .f32⟩ : BufTy).Contents (Elt F) → (⟨S131072, .f32⟩ : BufTy).Contents (Elt F)),
    StableHlo.binary main_v1714 main_v1715 main_v1716 (mulf : (⟨S131072, .f32⟩ : BufTy).Contents (Elt F) → (⟨S131072, .f32⟩ : BufTy).Contents (Elt F) → (⟨S131072, .f32⟩ : BufTy).Contents (Elt F)),
    StableHlo.nullary main_cst_525 (constant S_ .f32 0x437F0000#32),
    StableHlo.unary main_cst_525 main_v1717 (broadcastInDim S131072 ![] bcast_S_S131072 : (⟨S_, .f32⟩ : BufTy).Contents (Elt F) → (⟨S131072, .f32⟩ : BufTy).Contents (Elt F)),
    StableHlo.binary main_v1716 main_v1717 main_v1718 (mulf : (⟨S131072, .f32⟩ : BufTy).Contents (Elt F) → (⟨S131072, .f32⟩ : BufTy).Contents (Elt F) → (⟨S131072, .f32⟩ : BufTy).Contents (Elt F)),
    StableHlo.unary main_v1710 main_v1719 (Host.floor : (⟨S131072, .f32⟩ : BufTy).Contents (Elt F) → (⟨S131072, .f32⟩ : BufTy).Contents (Elt F)),
    StableHlo.unary main_v1718 main_v1720 (Host.floor : (⟨S131072, .f32⟩ : BufTy).Contents (Elt F) → (⟨S131072, .f32⟩ : BufTy).Contents (Elt F)),
    StableHlo.binary main_v1710 main_v1719 main_v1721 (subf : (⟨S131072, .f32⟩ : BufTy).Contents (Elt F) → (⟨S131072, .f32⟩ : BufTy).Contents (Elt F) → (⟨S131072, .f32⟩ : BufTy).Contents (Elt F)),
    StableHlo.binary main_v1718 main_v1720 main_v1722 (subf : (⟨S131072, .f32⟩ : BufTy).Contents (Elt F) → (⟨S131072, .f32⟩ : BufTy).Contents (Elt F) → (⟨S131072, .f32⟩ : BufTy).Contents (Elt F)),
    StableHlo.unary main_v1719 main_v1723 (fptosi 32 : (⟨S131072, .f32⟩ : BufTy).Contents (Elt F) → (⟨S131072, .i32⟩ : BufTy).Contents (Elt F)),
    StableHlo.nullary main_c_526 (constantI S_ 32 0#32),
    StableHlo.nullary main_c_527 (constantI S_ 32 255#32),
    StableHlo.TRef.unary (.of main_c_526) main_call52.v0 id,
    StableHlo.TRef.unary main_call52.v0 main_call52.v1 (broadcastInDim S131072 ![] bcast_S_S131072),
    StableHlo.TRef.binary main_call52.v1 (.of main_v1723) main_call52.v2 maxsi,
    StableHlo.TRef.unary (.of main_c_527) main_call52.v3 id,
    StableHlo.TRef.unary main_call52.v3 main_call52.v4 (broadcastInDim S131072 ![] bcast_S_S131072),
    StableHlo.TRef.binary main_call52.v4 main_call52.v2 main_call52.v5 minsi,
    StableHlo.nullary main_c_528 (constantI S_ 32 1#32),
    StableHlo.unary main_c_528 main_v1725 (broadcastInDim S131072 ![] bcast_S_S131072 : (⟨S_, .i32⟩ : BufTy).Contents (Elt F) → (⟨S131072, .i32⟩ : BufTy).Contents (Elt F)),
    StableHlo.binary main_v1724 main_v1725 main_v1726 (addi : (⟨S131072, .i32⟩ : BufTy).Contents (Elt F) → (⟨S131072, .i32⟩ : BufTy).Contents (Elt F) → (⟨S131072, .i32⟩ : BufTy).Contents (Elt F)),
    StableHlo.nullary main_c_529 (constantI S_ 32 0#32),
    StableHlo.nullary main_c_530 (constantI S_ 32 255#32),
    StableHlo.TRef.unary (.of main_c_529) main_call53.v0 id,
    StableHlo.TRef.unary main_call53.v0 main_call53.v1 (broadcastInDim S131072 ![] bcast_S_S131072),
    StableHlo.TRef.binary main_call53.v1 (.of main_v1726) main_call53.v2 maxsi,
    StableHlo.TRef.unary (.of main_c_530) main_call53.v3 id,
    StableHlo.TRef.unary main_call53.v3 main_call53.v4 (broadcastInDim S131072 ![] bcast_S_S131072),
    StableHlo.TRef.binary main_call53.v4 main_call53.v2 main_call53.v5 minsi,
    StableHlo.unary main_v1720 main_v1728 (fptosi 32 : (⟨S131072, .f32⟩ : BufTy).Contents (Elt F) → (⟨S131072, .i32⟩ : BufTy).Contents (Elt F)),
    StableHlo.nullary main_c_531 (constantI S_ 32 0#32),
    StableHlo.nullary main_c_532 (constantI S_ 32 255#32),
    StableHlo.TRef.unary (.of main_c_531) main_call54.v0 id,
    StableHlo.TRef.unary main_call54.v0 main_call54.v1 (broadcastInDim S131072 ![] bcast_S_S131072),
    StableHlo.TRef.binary main_call54.v1 (.of main_v1728) main_call54.v2 maxsi,
    StableHlo.TRef.unary (.of main_c_532) main_call54.v3 id,
    StableHlo.TRef.unary main_call54.v3 main_call54.v4 (broadcastInDim S131072 ![] bcast_S_S131072),
    StableHlo.TRef.binary main_call54.v4 main_call54.v2 main_call54.v5 minsi,
    StableHlo.nullary main_c_533 (constantI S_ 32 1#32),
    StableHlo.unary main_c_533 main_v1730 (broadcastInDim S131072 ![] bcast_S_S131072 : (⟨S_, .i32⟩ : BufTy).Contents (Elt F) → (⟨S131072, .i32⟩ : BufTy).Contents (Elt F)),
    StableHlo.binary main_v1729 main_v1730 main_v1731 (addi : (⟨S131072, .i32⟩ : BufTy).Contents (Elt F) → (⟨S131072, .i32⟩ : BufTy).Contents (Elt F) → (⟨S131072, .i32⟩ : BufTy).Contents (Elt F)),
    StableHlo.nullary main_c_534 (constantI S_ 32 0#32),
    StableHlo.nullary main_c_535 (constantI S_ 32 255#32),
    StableHlo.TRef.unary (.of main_c_534) main_call55.v0 id,
    StableHlo.TRef.unary main_call55.v0 main_call55.v1 (broadcastInDim S131072 ![] bcast_S_S131072),
    StableHlo.TRef.binary main_call55.v1 (.of main_v1731) main_call55.v2 maxsi,
    StableHlo.TRef.unary (.of main_c_535) main_call55.v3 id,
    StableHlo.TRef.unary main_call55.v3 main_call55.v4 (broadcastInDim S131072 ![] bcast_S_S131072),
    StableHlo.TRef.binary main_call55.v4 main_call55.v2 main_call55.v5 minsi,
    StableHlo.nullary main_c_536 (constantI S_ 32 0#32),
    StableHlo.unary main_c_536 main_v1733 (broadcastInDim S131072 ![] bcast_S_S131072 : (⟨S_, .i32⟩ : BufTy).Contents (Elt F) → (⟨S131072, .i32⟩ : BufTy).Contents (Elt F)),
    StableHlo.binary main_v1729 main_v1733 main_v1734 (cmpi .slt : (⟨S131072, .i32⟩ : BufTy).Contents (Elt F) → (⟨S131072, .i32⟩ : BufTy).Contents (Elt F) → (⟨S131072, .i1⟩ : BufTy).Contents (Elt F)),
    StableHlo.nullary main_c_537 (constantI S_ 32 256#32),
    StableHlo.unary main_c_537 main_v1735 (broadcastInDim S131072 ![] bcast_S_S131072 : (⟨S_, .i32⟩ : BufTy).Contents (Elt F) → (⟨S131072, .i32⟩ : BufTy).Contents (Elt F)),
    StableHlo.binary main_v1729 main_v1735 main_v1736 (addi : (⟨S131072, .i32⟩ : BufTy).Contents (Elt F) → (⟨S131072, .i32⟩ : BufTy).Contents (Elt F) → (⟨S131072, .i32⟩ : BufTy).Contents (Elt F)),
    StableHlo.ternary main_v1734 main_v1736 main_v1729 main_v1737 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_538 (constantI S_ 32 0#32),
    StableHlo.unary main_c_538 main_v1738 (broadcastInDim S131072 ![] bcast_S_S131072 : (⟨S_, .i32⟩ : BufTy).Contents (Elt F) → (⟨S131072, .i32⟩ : BufTy).Contents (Elt F)) ]
theorem w37_eq (c : Dev nD) : main_part37 (F := F) c = seq w37 := rfl
theorem w37_sub : (w37 : List (HloOp τ sig (Elt F))).Forall fun op => op.bufs ⊆ tcRefs τ sig :=
  ⟨unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩
theorem w37_fresh : (w37 : List (HloOp τ sig (Elt F))).Forall fun op => op.fresh = ∅ := by
  simp only [List.Forall]; repeat' constructor
set_option maxHeartbeats 4000000 in
theorem w37_chain : Chain 2508 (w37 : List (HloOp τ sig (Elt F))) :=
  Chain.cons (stepAt_unary 2508 _ _ _ rfl (by decide)) <|
  Chain.cons (stepAt_binary 2509 _ _ _ _ rfl (by decide) (by decide)) <|
  Chain.cons (stepAt_ternary 2510 _ _ _ _ _ rfl (by decide) (by decide) (by decide)) <|
  Chain.cons (stepAt_unary 2511 _ _ _ rfl (by decide)) <|
  Chain.cons (stepAt_binary 2512 _ _ _ _ rfl (by decide) (by decide)) <|
  Chain.cons (stepAt_unary 2513 _ _ _ rfl (by decide)) <|
  Chain.cons (stepAt_reshape 2514 _ _ _ _ rfl (by decide)) <|
  Chain.cons (stepAt_nullary 2515 _ _ rfl) <|
  Chain.cons (stepAt_unary 2516 _ _ _ rfl (by decide)) <|
  Chain.cons (stepAt_binary 2517 _ _ _ _ rfl (by decide) (by decide)) <|
  Chain.cons (stepAt_nullary 2518 _ _ rfl) <|
  Chain.cons (stepAt_unary 2519 _ _ _ rfl (by decide)) <|
  Chain.cons (stepAt_binary 2520 _ _ _ _ rfl (by decide) (by decide)) <|
  Chain.cons (stepAt_nullary 2521 _ _ rfl) <|
  Chain.cons (stepAt_unary 2522 _ _ _ rfl (by decide)) <|
  Chain.cons (stepAt_binary 2523 _ _ _ _ rfl (by decide) (by decide)) <|
  Chain.cons (stepAt_unary 2524 _ _ _ rfl (by decide)) <|
  Chain.cons (stepAt_reshape 2525 _ _ _ _ rfl (by decide)) <|
  Chain.cons (stepAt_nullary 2526 _ _ rfl) <|
  Chain.cons (stepAt_unary 2527 _ _ _ rfl (by decide)) <|
  Chain.cons (stepAt_binary 2528 _ _ _ _ rfl (by decide) (by decide)) <|
  Chain.cons (stepAt_nullary 2529 _ _ rfl) <|
  Chain.cons (stepAt_unary 2530 _ _ _ rfl (by decide)) <|
  Chain.cons (stepAt_binary 2531 _ _ _ _ rfl (by decide) (by decide)) <|
  Chain.cons (stepAt_nullary 2532 _ _ rfl) <|
  Chain.cons (stepAt_unary 2533 _ _ _ rfl (by decide)) <|
  Chain.cons (stepAt_binary 2534 _ _ _ _ rfl (by decide) (by decide)) <|
  Chain.cons (stepAt_unary 2535 _ _ _ rfl (by decide)) <|
  Chain.cons (stepAt_unary 2536 _ _ _ rfl (by decide)) <|
  Chain.cons (stepAt_binary 2537 _ _ _ _ rfl (by decide) (by decide)) <|
  Chain.cons (stepAt_binary 2538 _ _ _ _ rfl (by decide) (by decide)) <|
  Chain.cons (stepAt_unary 2539 _ _ _ rfl (by decide)) <|
  Chain.cons (stepAt_nullary 2540 _ _ rfl) <|
  Chain.cons (stepAt_nullary 2541 _ _ rfl) <|
  Chain.cons (stepAt_unary 2542 _ _ _ rfl (by decide)) <|
  Chain.cons (stepAt_unary 2543 _ _ _ rfl (by decide)) <|
  Chain.cons (stepAt_binary 2544 _ _ _ _ rfl (by decide) (by decide)) <|
  Chain.cons (stepAt_unary 2545 _ _ _ rfl (by decide)) <|
  Chain.cons (stepAt_unary 2546 _ _ _ rfl (by decide)) <|
  Chain.cons (stepAt_binary 2547 _ _ _ _ rfl (by decide) (by decide)) <|
  Chain.cons (stepAt_nullary 2548 _ _ rfl) <|
  Chain.cons (stepAt_unary 2549 _ _ _ rfl (by decide)) <|
  Chain.cons (stepAt_binary 2550 _ _ _ _ rfl (by decide) (by decide)) <|
  Chain.cons (stepAt_nullary 2551 _ _ rfl) <|
  Chain.cons (stepAt_nullary 2552 _ _ rfl) <|
  Chain.cons (stepAt_unary 2553 _ _ _ rfl (by decide)) <|
  Chain.cons (stepAt_unary 2554 _ _ _ rfl (by decide)) <|
  Chain.cons (stepAt_binary 2555 _ _ _ _ rfl (by decide) (by decide)) <|
  Chain.cons (stepAt_unary 2556 _ _ _ rfl (by decide)) <|
  Chain.cons (stepAt_unary 2557 _ _ _ rfl (by decide)) <|
  Chain.cons (stepAt_binary 2558 _ _ _ _ rfl (by decide) (by decide)) <|
  Chain.cons (stepAt_unary 2559 _ _ _ rfl (by decide)) <|
  Chain.cons (stepAt_nullary 2560 _ _ rfl) <|
  Chain.cons (stepAt_nullary 2561 _ _ rfl) <|
  Chain.cons (stepAt_unary 2562 _ _ _ rfl (by decide)) <|
  Chain.cons (stepAt_unary 2563 _ _ _ rfl (by decide)) <|
  Chain.cons (stepAt_binary 2564 _ _ _ _ rfl (by decide) (by decide)) <|
  Chain.cons (stepAt_unary 2565 _ _ _ rfl (by decide)) <|
  Chain.cons (stepAt_unary 2566 _ _ _ rfl (by decide)) <|
  Chain.cons (stepAt_binary 2567 _ _ _ _ rfl (by decide) (by decide)) <|
  Chain.cons (stepAt_nullary 2568 _ _ rfl) <|
  Chain.cons (stepAt_unary 2569 _ _ _ rfl (by decide)) <|
  Chain.cons (stepAt_binary 2570 _ _ _ _ rfl (by decide) (by decide)) <|
  Chain.cons (stepAt_nullary 2571 _ _ rfl) <|
  Chain.cons (stepAt_nullary 2572 _ _ rfl) <|
  Chain.cons (stepAt_unary 2573 _ _ _ rfl (by decide)) <|
  Chain.cons (stepAt_unary 2574 _ _ _ rfl (by decide)) <|
  Chain.cons (stepAt_binary 2575 _ _ _ _ rfl (by decide) (by decide)) <|
  Chain.cons (stepAt_unary 2576 _ _ _ rfl (by decide)) <|
  Chain.cons (stepAt_unary 2577 _ _ _ rfl (by decide)) <|
  Chain.cons (stepAt_binary 2578 _ _ _ _ rfl (by decide) (by decide)) <|
  Chain.cons (stepAt_nullary 2579 _ _ rfl) <|
  Chain.cons (stepAt_unary 2580 _ _ _ rfl (by decide)) <|
  Chain.cons (stepAt_binary 2581 _ _ _ _ rfl (by decide) (by decide)) <|
  Chain.cons (stepAt_nullary 2582 _ _ rfl) <|
  Chain.cons (stepAt_unary 2583 _ _ _ rfl (by decide)) <|
  Chain.cons (stepAt_binary 2584 _ _ _ _ rfl (by decide) (by decide)) <|
  Chain.cons (stepAt_ternary 2585 _ _ _ _ _ rfl (by decide) (by decide) (by decide)) <|
  Chain.cons (stepAt_nullary 2586 _ _ rfl) <|
  Chain.cons (stepAt_unary 2587 _ _ _ rfl (by decide)) <|
  Chain.nil
theorem w37_length : (w37 : List (HloOp τ sig (Elt F))).length = 80 := rfl

/-- Window 38 of @main: 60 operations, writing buffers 2588 … 2647. -/
abbrev w38 : List (HloOp τ sig (Elt F)) :=
  [ StableHlo.binary main_v1724 main_v1738 main_v1739 (cmpi .slt : (⟨S131072, .i32⟩ : BufTy).Contents (Elt F) → (⟨S131072, .i32⟩ : BufTy).Contents (Elt F) → (⟨S131072, .i1⟩ : BufTy).Contents (Elt F)),
    StableHlo.nullary main_c_539 (constantI S_ 32 256#32),
    StableHlo.unary main_c_539 main_v1740 (broadcastInDim S131072 ![] bcast_S_S131072 : (⟨S_, .i32⟩ : BufTy).Contents (Elt F) → (⟨S131072, .i32⟩ : BufTy).Contents (Elt F)),
    StableHlo.binary main_v1724 main_v1740 main_v1741 (addi : (⟨S131072, .i32⟩ : BufTy).Contents (Elt F) → (⟨S131072, .i32⟩ : BufTy).Contents (Elt F) → (⟨S131072, .i32⟩ : BufTy).Contents (Elt F)),
    StableHlo.ternary main_v1739 main_v1741 main_v1724 main_v1742 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1737 main_v1743 (broadcastInDim S131072x1 ![0] bcast_S131072_S131072x1_0 : (⟨S131072, .i32⟩ : BufTy).Contents (Elt F) → (⟨S131072x1, .i32⟩ : BufTy).Contents (Elt F)),
    StableHlo.unary main_v1742 main_v1744 (broadcastInDim S131072x1 ![0] bcast_S131072_S131072x1_0 : (⟨S131072, .i32⟩ : BufTy).Contents (Elt F) → (⟨S131072x1, .i32⟩ : BufTy).Contents (Elt F)),
    StableHlo.binary main_v1743 main_v1744 main_v1745 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg15 main_v1745 main_v1746 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_540 (constantI S_ 32 0#32),
    StableHlo.unary main_c_540 main_v1747 (broadcastInDim S131072 ![] bcast_S_S131072 : (⟨S_, .i32⟩ : BufTy).Contents (Elt F) → (⟨S131072, .i32⟩ : BufTy).Contents (Elt F)),
    StableHlo.binary main_v1729 main_v1747 main_v1748 (cmpi .slt : (⟨S131072, .i32⟩ : BufTy).Contents (Elt F) → (⟨S131072, .i32⟩ : BufTy).Contents (Elt F) → (⟨S131072, .i1⟩ : BufTy).Contents (Elt F)),
    StableHlo.nullary main_c_541 (constantI S_ 32 256#32),
    StableHlo.unary main_c_541 main_v1749 (broadcastInDim S131072 ![] bcast_S_S131072 : (⟨S_, .i32⟩ : BufTy).Contents (Elt F) → (⟨S131072, .i32⟩ : BufTy).Contents (Elt F)),
    StableHlo.binary main_v1729 main_v1749 main_v1750 (addi : (⟨S131072, .i32⟩ : BufTy).Contents (Elt F) → (⟨S131072, .i32⟩ : BufTy).Contents (Elt F) → (⟨S131072, .i32⟩ : BufTy).Contents (Elt F)),
    StableHlo.ternary main_v1748 main_v1750 main_v1729 main_v1751 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_542 (constantI S_ 32 0#32),
    StableHlo.unary main_c_542 main_v1752 (broadcastInDim S131072 ![] bcast_S_S131072 : (⟨S_, .i32⟩ : BufTy).Contents (Elt F) → (⟨S131072, .i32⟩ : BufTy).Contents (Elt F)),
    StableHlo.binary main_v1727 main_v1752 main_v1753 (cmpi .slt : (⟨S131072, .i32⟩ : BufTy).Contents (Elt F) → (⟨S131072, .i32⟩ : BufTy).Contents (Elt F) → (⟨S131072, .i1⟩ : BufTy).Contents (Elt F)),
    StableHlo.nullary main_c_543 (constantI S_ 32 256#32),
    StableHlo.unary main_c_543 main_v1754 (broadcastInDim S131072 ![] bcast_S_S131072 : (⟨S_, .i32⟩ : BufTy).Contents (Elt F) → (⟨S131072, .i32⟩ : BufTy).Contents (Elt F)),
    StableHlo.binary main_v1727 main_v1754 main_v1755 (addi : (⟨S131072, .i32⟩ : BufTy).Contents (Elt F) → (⟨S131072, .i32⟩ : BufTy).Contents (Elt F) → (⟨S131072, .i32⟩ : BufTy).Contents (Elt F)),
    StableHlo.ternary main_v1753 main_v1755 main_v1727 main_v1756 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1751 main_v1757 (broadcastInDim S131072x1 ![0] bcast_S131072_S131072x1_0 : (⟨S131072, .i32⟩ : BufTy).Contents (Elt F) → (⟨S131072x1, .i32⟩ : BufTy).Contents (Elt F)),
    StableHlo.unary main_v1756 main_v1758 (broadcastInDim S131072x1 ![0] bcast_S131072_S131072x1_0 : (⟨S131072, .i32⟩ : BufTy).Contents (Elt F) → (⟨S131072x1, .i32⟩ : BufTy).Contents (Elt F)),
    StableHlo.binary main_v1757 main_v1758 main_v1759 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg15 main_v1759 main_v1760 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_544 (constantI S_ 32 0#32),
    StableHlo.unary main_c_544 main_v1761 (broadcastInDim S131072 ![] bcast_S_S131072 : (⟨S_, .i32⟩ : BufTy).Contents (Elt F) → (⟨S131072, .i32⟩ : BufTy).Contents (Elt F)),
    StableHlo.binary main_v1732 main_v1761 main_v1762 (cmpi .slt : (⟨S131072, .i32⟩ : BufTy).Contents (Elt F) → (⟨S131072, .i32⟩ : BufTy).Contents (Elt F) → (⟨S131072, .i1⟩ : BufTy).Contents (Elt F)),
    StableHlo.nullary main_c_545 (constantI S_ 32 256#32),
    StableHlo.unary main_c_545 main_v1763 (broadcastInDim S131072 ![] bcast_S_S131072 : (⟨S_, .i32⟩ : BufTy).Contents (Elt F) → (⟨S131072, .i32⟩ : BufTy).Contents (Elt F)),
    StableHlo.binary main_v1732 main_v1763 main_v1764 (addi : (⟨S131072, .i32⟩ : BufTy).Contents (Elt F) → (⟨S131072, .i32⟩ : BufTy).Contents (Elt F) → (⟨S131072, .i32⟩ : BufTy).Contents (Elt F)),
    StableHlo.ternary main_v1762 main_v1764 main_v1732 main_v1765 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_546 (constantI S_ 32 0#32),
    StableHlo.unary main_c_546 main_v1766 (broadcastInDim S131072 ![] bcast_S_S131072 : (⟨S_, .i32⟩ : BufTy).Contents (Elt F) → (⟨S131072, .i32⟩ : BufTy).Contents (Elt F)),
    StableHlo.binary main_v1724 main_v1766 main_v1767 (cmpi .slt : (⟨S131072, .i32⟩ : BufTy).Contents (Elt F) → (⟨S131072, .i32⟩ : BufTy).Contents (Elt F) → (⟨S131072, .i1⟩ : BufTy).Contents (Elt F)),
    StableHlo.nullary main_c_547 (constantI S_ 32 256#32),
    StableHlo.unary main_c_547 main_v1768 (broadcastInDim S131072 ![] bcast_S_S131072 : (⟨S_, .i32⟩ : BufTy).Contents (Elt F) → (⟨S131072, .i32⟩ : BufTy).Contents (Elt F)),
    StableHlo.binary main_v1724 main_v1768 main_v1769 (addi : (⟨S131072, .i32⟩ : BufTy).Contents (Elt F) → (⟨S131072, .i32⟩ : BufTy).Contents (Elt F) → (⟨S131072, .i32⟩ : BufTy).Contents (Elt F)),
    StableHlo.ternary main_v1767 main_v1769 main_v1724 main_v1770 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1765 main_v1771 (broadcastInDim S131072x1 ![0] bcast_S131072_S131072x1_0 : (⟨S131072, .i32⟩ : BufTy).Contents (Elt F) → (⟨S131072x1, .i32⟩ : BufTy).Contents (Elt F)),
    StableHlo.unary main_v1770 main_v1772 (broadcastInDim S131072x1 ![0] bcast_S131072_S131072x1_0 : (⟨S131072, .i32⟩ : BufTy).Contents (Elt F) → (⟨S131072x1, .i32⟩ : BufTy).Contents (Elt F)),
    StableHlo.binary main_v1771 main_v1772 main_v1773 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg15 main_v1773 main_v1774 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_548 (constantI S_ 32 0#32),
    StableHlo.unary main_c_548 main_v1775 (broadcastInDim S131072 ![] bcast_S_S131072 : (⟨S_, .i32⟩ : BufTy).Contents (Elt F) → (⟨S131072, .i32⟩ : BufTy).Contents (Elt F)),
    StableHlo.binary main_v1732 main_v1775 main_v1776 (cmpi .slt : (⟨S131072, .i32⟩ : BufTy).Contents (Elt F) → (⟨S131072, .i32⟩ : BufTy).Contents (Elt F) → (⟨S131072, .i1⟩ : BufTy).Contents (Elt F)),
    StableHlo.nullary main_c_549 (constantI S_ 32 256#32),
    StableHlo.unary main_c_549 main_v1777 (broadcastInDim S131072 ![] bcast_S_S131072 : (⟨S_, .i32⟩ : BufTy).Contents (Elt F) → (⟨S131072, .i32⟩ : BufTy).Contents (Elt F)),
    StableHlo.binary main_v1732 main_v1777 main_v1778 (addi : (⟨S131072, .i32⟩ : BufTy).Contents (Elt F) → (⟨S131072, .i32⟩ : BufTy).Contents (Elt F) → (⟨S131072, .i32⟩ : BufTy).Contents (Elt F)),
    StableHlo.ternary main_v1776 main_v1778 main_v1732 main_v1779 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_550 (constantI S_ 32 0#32),
    StableHlo.unary main_c_550 main_v1780 (broadcastInDim S131072 ![] bcast_S_S131072 : (⟨S_, .i32⟩ : BufTy).Contents (Elt F) → (⟨S131072, .i32⟩ : BufTy).Contents (Elt F)),
    StableHlo.binary main_v1727 main_v1780 main_v1781 (cmpi .slt : (⟨S131072, .i32⟩ : BufTy).Contents (Elt F) → (⟨S131072, .i32⟩ : BufTy).Contents (Elt F) → (⟨S131072, .i1⟩ : BufTy).Contents (Elt F)),
    StableHlo.nullary main_c_551 (constantI S_ 32 256#32),
    StableHlo.unary main_c_551 main_v1782 (broadcastInDim S131072 ![] bcast_S_S131072 : (⟨S_, .i32⟩ : BufTy).Contents (Elt F) → (⟨S131072, .i32⟩ : BufTy).Contents (Elt F)),
    StableHlo.binary main_v1727 main_v1782 main_v1783 (addi : (⟨S131072, .i32⟩ : BufTy).Contents (Elt F) → (⟨S131072, .i32⟩ : BufTy).Contents (Elt F) → (⟨S131072, .i32⟩ : BufTy).Contents (Elt F)),
    StableHlo.ternary main_v1781 main_v1783 main_v1727 main_v1784 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1779 main_v1785 (broadcastInDim S131072x1 ![0] bcast_S131072_S131072x1_0 : (⟨S131072, .i32⟩ : BufTy).Contents (Elt F) → (⟨S131072x1, .i32⟩ : BufTy).Contents (Elt F)) ]
theorem w38_eq (c : Dev nD) : main_part38 (F := F) c = seq w38 := rfl
theorem w38_sub : (w38 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
theorem w38_fresh : (w38 : List (HloOp τ sig (Elt F))).Forall fun op => op.fresh = ∅ := by
  simp only [List.Forall]; repeat' constructor
set_option maxHeartbeats 4000000 in
theorem w38_chain : Chain 2588 (w38 : List (HloOp τ sig (Elt F))) :=
  Chain.cons (stepAt_binary 2588 _ _ _ _ rfl (by decide) (by decide)) <|
  Chain.cons (stepAt_nullary 2589 _ _ rfl) <|
  Chain.cons (stepAt_unary 2590 _ _ _ rfl (by decide)) <|
  Chain.cons (stepAt_binary 2591 _ _ _ _ rfl (by decide) (by decide)) <|
  Chain.cons (stepAt_ternary 2592 _ _ _ _ _ rfl (by decide) (by decide) (by decide)) <|
  Chain.cons (stepAt_unary 2593 _ _ _ rfl (by decide)) <|
  Chain.cons (stepAt_unary 2594 _ _ _ rfl (by decide)) <|
  Chain.cons (stepAt_binary 2595 _ _ _ _ rfl (by decide) (by decide)) <|
  Chain.cons (stepAt_binary 2596 _ _ _ _ rfl (by decide) (by decide)) <|
  Chain.cons (stepAt_nullary 2597 _ _ rfl) <|
  Chain.cons (stepAt_unary 2598 _ _ _ rfl (by decide)) <|
  Chain.cons (stepAt_binary 2599 _ _ _ _ rfl (by decide) (by decide)) <|
  Chain.cons (stepAt_nullary 2600 _ _ rfl) <|
  Chain.cons (stepAt_unary 2601 _ _ _ rfl (by decide)) <|
  Chain.cons (stepAt_binary 2602 _ _ _ _ rfl (by decide) (by decide)) <|
  Chain.cons (stepAt_ternary 2603 _ _ _ _ _ rfl (by decide) (by decide) (by decide)) <|
  Chain.cons (stepAt_nullary 2604 _ _ rfl) <|
  Chain.cons (stepAt_unary 2605 _ _ _ rfl (by decide)) <|
  Chain.cons (stepAt_binary 2606 _ _ _ _ rfl (by decide) (by decide)) <|
  Chain.cons (stepAt_nullary 2607 _ _ rfl) <|
  Chain.cons (stepAt_unary 2608 _ _ _ rfl (by decide)) <|
  Chain.cons (stepAt_binary 2609 _ _ _ _ rfl (by decide) (by decide)) <|
  Chain.cons (stepAt_ternary 2610 _ _ _ _ _ rfl (by decide) (by decide) (by decide)) <|
  Chain.cons (stepAt_unary 2611 _ _ _ rfl (by decide)) <|
  Chain.cons (stepAt_unary 2612 _ _ _ rfl (by decide)) <|
  Chain.cons (stepAt_binary 2613 _ _ _ _ rfl (by decide) (by decide)) <|
  Chain.cons (stepAt_binary 2614 _ _ _ _ rfl (by decide) (by decide)) <|
  Chain.cons (stepAt_nullary 2615 _ _ rfl) <|
  Chain.cons (stepAt_unary 2616 _ _ _ rfl (by decide)) <|
  Chain.cons (stepAt_binary 2617 _ _ _ _ rfl (by decide) (by decide)) <|
  Chain.cons (stepAt_nullary 2618 _ _ rfl) <|
  Chain.cons (stepAt_unary 2619 _ _ _ rfl (by decide)) <|
  Chain.cons (stepAt_binary 2620 _ _ _ _ rfl (by decide) (by decide)) <|
  Chain.cons (stepAt_ternary 2621 _ _ _ _ _ rfl (by decide) (by decide) (by decide)) <|
  Chain.cons (stepAt_nullary 2622 _ _ rfl) <|
  Chain.cons (stepAt_unary 2623 _ _ _ rfl (by decide)) <|
  Chain.cons (stepAt_binary 2624 _ _ _ _ rfl (by decide) (by decide)) <|
  Chain.cons (stepAt_nullary 2625 _ _ rfl) <|
  Chain.cons (stepAt_unary 2626 _ _ _ rfl (by decide)) <|
  Chain.cons (stepAt_binary 2627 _ _ _ _ rfl (by decide) (by decide)) <|
  Chain.cons (stepAt_ternary 2628 _ _ _ _ _ rfl (by decide) (by decide) (by decide)) <|
  Chain.cons (stepAt_unary 2629 _ _ _ rfl (by decide)) <|
  Chain.cons (stepAt_unary 2630 _ _ _ rfl (by decide)) <|
  Chain.cons (stepAt_binary 2631 _ _ _ _ rfl (by decide) (by decide)) <|
  Chain.cons (stepAt_binary 2632 _ _ _ _ rfl (by decide) (by decide)) <|
  Chain.cons (stepAt_nullary 2633 _ _ rfl) <|
  Chain.cons (stepAt_unary 2634 _ _ _ rfl (by decide)) <|
  Chain.cons (stepAt_binary 2635 _ _ _ _ rfl (by decide) (by decide)) <|
  Chain.cons (stepAt_nullary 2636 _ _ rfl) <|
  Chain.cons (stepAt_unary 2637 _ _ _ rfl (by decide)) <|
  Chain.cons (stepAt_binary 2638 _ _ _ _ rfl (by decide) (by decide)) <|
  Chain.cons (stepAt_ternary 2639 _ _ _ _ _ rfl (by decide) (by decide) (by decide)) <|
  Chain.cons (stepAt_nullary 2640 _ _ rfl) <|
  Chain.cons (stepAt_unary 2641 _ _ _ rfl (by decide)) <|
  Chain.cons (stepAt_binary 2642 _ _ _ _ rfl (by decide) (by decide)) <|
  Chain.cons (stepAt_nullary 2643 _ _ rfl) <|
  Chain.cons (stepAt_unary 2644 _ _ _ rfl (by decide)) <|
  Chain.cons (stepAt_binary 2645 _ _ _ _ rfl (by decide) (by decide)) <|
  Chain.cons (stepAt_ternary 2646 _ _ _ _ _ rfl (by decide) (by decide) (by decide)) <|
  Chain.cons (stepAt_unary 2647 _ _ _ rfl (by decide)) <|
  Chain.nil
theorem w38_length : (w38 : List (HloOp τ sig (Elt F))).length = 60 := rfl

/-- Window 39 of @main: 60 operations, writing buffers 2648 … 2707. -/
abbrev w39 : List (HloOp τ sig (Elt F)) :=
  [ StableHlo.unary main_v1784 main_v1786 (broadcastInDim S131072x1 ![0] bcast_S131072_S131072x1_0 : (⟨S131072, .i32⟩ : BufTy).Contents (Elt F) → (⟨S131072x1, .i32⟩ : BufTy).Contents (Elt F)),
    StableHlo.binary main_v1785 main_v1786 main_v1787 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg15 main_v1787 main_v1788 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_cst_552 (constant S_ .f32 0x3F800000#32),
    StableHlo.unary main_cst_552 main_v1789 (broadcastInDim S131072 ![] bcast_S_S131072 : (⟨S_, .f32⟩ : BufTy).Contents (Elt F) → (⟨S131072, .f32⟩ : BufTy).Contents (Elt F)),
    StableHlo.binary main_v1789 main_v1721 main_v1790 (subf : (⟨S131072, .f32⟩ : BufTy).Contents (Elt F) → (⟨S131072, .f32⟩ : BufTy).Contents (Elt F) → (⟨S131072, .f32⟩ : BufTy).Contents (Elt F)),
    StableHlo.unary main_v1790 main_v1791 (broadcastInDim S1x131072 ![1] bcast_S131072_S1x131072_1 : (⟨S131072, .f32⟩ : BufTy).Contents (Elt F) → (⟨S1x131072, .f32⟩ : BufTy).Contents (Elt F)),
    StableHlo.unary main_v1791 main_v1792 (broadcastInDim S32x131072 ![0, 1] bcast_S1x131072_S32x131072_0_1 : (⟨S1x131072, .f32⟩ : BufTy).Contents (Elt F) → (⟨S32x131072, .f32⟩ : BufTy).Contents (Elt F)),
    StableHlo.binary main_v1746 main_v1792 main_v1793 (mulf : (⟨S32x131072, .f32⟩ : BufTy).Contents (Elt F) → (⟨S32x131072, .f32⟩ : BufTy).Contents (Elt F) → (⟨S32x131072, .f32⟩ : BufTy).Contents (Elt F)),
    StableHlo.nullary main_cst_553 (constant S_ .f32 0x3F800000#32),
    StableHlo.unary main_cst_553 main_v1794 (broadcastInDim S131072 ![] bcast_S_S131072 : (⟨S_, .f32⟩ : BufTy).Contents (Elt F) → (⟨S131072, .f32⟩ : BufTy).Contents (Elt F)),
    StableHlo.binary main_v1794 main_v1722 main_v1795 (subf : (⟨S131072, .f32⟩ : BufTy).Contents (Elt F) → (⟨S131072, .f32⟩ : BufTy).Contents (Elt F) → (⟨S131072, .f32⟩ : BufTy).Contents (Elt F)),
    StableHlo.unary main_v1795 main_v1796 (broadcastInDim S1x131072 ![1] bcast_S131072_S1x131072_1 : (⟨S131072, .f32⟩ : BufTy).Contents (Elt F) → (⟨S1x131072, .f32⟩ : BufTy).Contents (Elt F)),
    StableHlo.unary main_v1796 main_v1797 (broadcastInDim S32x131072 ![0, 1] bcast_S1x131072_S32x131072_0_1 : (⟨S1x131072, .f32⟩ : BufTy).Contents (Elt F) → (⟨S32x131072, .f32⟩ : BufTy).Contents (Elt F)),
    StableHlo.binary main_v1793 main_v1797 main_v1798 (mulf : (⟨S32x131072, .f32⟩ : BufTy).Contents (Elt F) → (⟨S32x131072, .f32⟩ : BufTy).Contents (Elt F) → (⟨S32x131072, .f32⟩ : BufTy).Contents (Elt F)),
    StableHlo.unary main_v1721 main_v1799 (broadcastInDim S1x131072 ![1] bcast_S131072_S1x131072_1 : (⟨S131072, .f32⟩ : BufTy).Contents (Elt F) → (⟨S1x131072, .f32⟩ : BufTy).Contents (Elt F)),
    StableHlo.unary main_v1799 main_v1800 (broadcastInDim S32x131072 ![0, 1] bcast_S1x131072_S32x131072_0_1 : (⟨S1x131072, .f32⟩ : BufTy).Contents (Elt F) → (⟨S32x131072, .f32⟩ : BufTy).Contents (Elt F)),
    StableHlo.binary main_v1760 main_v1800 main_v1801 (mulf : (⟨S32x131072, .f32⟩ : BufTy).Contents (Elt F) → (⟨S32x131072, .f32⟩ : BufTy).Contents (Elt F) → (⟨S32x131072, .f32⟩ : BufTy).Contents (Elt F)),
    StableHlo.nullary main_cst_554 (constant S_ .f32 0x3F800000#32),
    StableHlo.unary main_cst_554 main_v1802 (broadcastInDim S131072 ![] bcast_S_S131072 : (⟨S_, .f32⟩ : BufTy).Contents (Elt F) → (⟨S131072, .f32⟩ : BufTy).Contents (Elt F)),
    StableHlo.binary main_v1802 main_v1722 main_v1803 (subf : (⟨S131072, .f32⟩ : BufTy).Contents (Elt F) → (⟨S131072, .f32⟩ : BufTy).Contents (Elt F) → (⟨S131072, .f32⟩ : BufTy).Contents (Elt F)),
    StableHlo.unary main_v1803 main_v1804 (broadcastInDim S1x131072 ![1] bcast_S131072_S1x131072_1 : (⟨S131072, .f32⟩ : BufTy).Contents (Elt F) → (⟨S1x131072, .f32⟩ : BufTy).Contents (Elt F)),
    StableHlo.unary main_v1804 main_v1805 (broadcastInDim S32x131072 ![0, 1] bcast_S1x131072_S32x131072_0_1 : (⟨S1x131072, .f32⟩ : BufTy).Contents (Elt F) → (⟨S32x131072, .f32⟩ : BufTy).Contents (Elt F)),
    StableHlo.binary main_v1801 main_v1805 main_v1806 (mulf : (⟨S32x131072, .f32⟩ : BufTy).Contents (Elt F) → (⟨S32x131072, .f32⟩ : BufTy).Contents (Elt F) → (⟨S32x131072, .f32⟩ : BufTy).Contents (Elt F)),
    StableHlo.binary main_v1798 main_v1806 main_v1807 (addf : (⟨S32x131072, .f32⟩ : BufTy).Contents (Elt F) → (⟨S32x131072, .f32⟩ : BufTy).Contents (Elt F) → (⟨S32x131072, .f32⟩ : BufTy).Contents (Elt F)),
    StableHlo.nullary main_cst_555 (constant S_ .f32 0x3F800000#32),
    StableHlo.unary main_cst_555 main_v1808 (broadcastInDim S131072 ![] bcast_S_S131072 : (⟨S_, .f32⟩ : BufTy).Contents (Elt F) → (⟨S131072, .f32⟩ : BufTy).Contents (Elt F)),
    StableHlo.binary main_v1808 main_v1721 main_v1809 (subf : (⟨S131072, .f32⟩ : BufTy).Contents (Elt F) → (⟨S131072, .f32⟩ : BufTy).Contents (Elt F) → (⟨S131072, .f32⟩ : BufTy).Contents (Elt F)),
    StableHlo.unary main_v1809 main_v1810 (broadcastInDim S1x131072 ![1] bcast_S131072_S1x131072_1 : (⟨S131072, .f32⟩ : BufTy).Contents (Elt F) → (⟨S1x131072, .f32⟩ : BufTy).Contents (Elt F)),
    StableHlo.unary main_v1810 main_v1811 (broadcastInDim S32x131072 ![0, 1] bcast_S1x131072_S32x131072_0_1 : (⟨S1x131072, .f32⟩ : BufTy).Contents (Elt F) → (⟨S32x131072, .f32⟩ : BufTy).Contents (Elt F)),
    StableHlo.binary main_v1774 main_v1811 main_v1812 (mulf : (⟨S32x131072, .f32⟩ : BufTy).Contents (Elt F) → (⟨S32x131072, .f32⟩ : BufTy).Contents (Elt F) → (⟨S32x131072, .f32⟩ : BufTy).Contents (Elt F)),
    StableHlo.unary main_v1722 main_v1813 (broadcastInDim S1x131072 ![1] bcast_S131072_S1x131072_1 : (⟨S131072, .f32⟩ : BufTy).Contents (Elt F) → (⟨S1x131072, .f32⟩ : BufTy).Contents (Elt F)),
    StableHlo.unary main_v1813 main_v1814 (broadcastInDim S32x131072 ![0, 1] bcast_S1x131072_S32x131072_0_1 : (⟨S1x131072, .f32⟩ : BufTy).Contents (Elt F) → (⟨S32x131072, .f32⟩ : BufTy).Contents (Elt F)),
    StableHlo.binary main_v1812 main_v1814 main_v1815 (mulf : (⟨S32x131072, .f32⟩ : BufTy).Contents (Elt F) → (⟨S32x131072, .f32⟩ : BufTy).Contents (Elt F) → (⟨S32x131072, .f32⟩ : BufTy).Contents (Elt F)),
    StableHlo.binary main_v1807 main_v1815 main_v1816 (addf : (⟨S32x131072, .f32⟩ : BufTy).Contents (Elt F) → (⟨S32x131072, .f32⟩ : BufTy).Contents (Elt F) → (⟨S32x131072, .f32⟩ : BufTy).Contents (Elt F)),
    StableHlo.unary main_v1721 main_v1817 (broadcastInDim S1x131072 ![1] bcast_S131072_S1x131072_1 : (⟨S131072, .f32⟩ : BufTy).Contents (Elt F) → (⟨S1x131072, .f32⟩ : BufTy).Contents (Elt F)),
    StableHlo.unary main_v1817 main_v1818 (broadcastInDim S32x131072 ![0, 1] bcast_S1x131072_S32x131072_0_1 : (⟨S1x131072, .f32⟩ : BufTy).Contents (Elt F) → (⟨S32x131072, .f32⟩ : BufTy).Contents (Elt F)),
    StableHlo.binary main_v1788 main_v1818 main_v1819 (mulf : (⟨S32x131072, .f32⟩ : BufTy).Contents (Elt F) → (⟨S32x131072, .f32⟩ : BufTy).Contents (Elt F) → (⟨S32x131072, .f32⟩ : BufTy).Contents (Elt F)),
    StableHlo.unary main_v1722 main_v1820 (broadcastInDim S1x131072 ![1] bcast_S131072_S1x131072_1 : (⟨S131072, .f32⟩ : BufTy).Contents (Elt F) → (⟨S1x131072, .f32⟩ : BufTy).Contents (Elt F)),
    StableHlo.unary main_v1820 main_v1821 (broadcastInDim S32x131072 ![0, 1] bcast_S1x131072_S32x131072_0_1 : (⟨S1x131072, .f32⟩ : BufTy).Contents (Elt F) → (⟨S32x131072, .f32⟩ : BufTy).Contents (Elt F)),
    StableHlo.binary main_v1819 main_v1821 main_v1822 (mulf : (⟨S32x131072, .f32⟩ : BufTy).Contents (Elt F) → (⟨S32x131072, .f32⟩ : BufTy).Contents (Elt F) → (⟨S32x131072, .f32⟩ : BufTy).Contents (Elt F)),
    StableHlo.binary main_v1816 main_v1822 main_v1823 (addf : (⟨S32x131072, .f32⟩ : BufTy).Contents (Elt F) → (⟨S32x131072, .f32⟩ : BufTy).Contents (Elt F) → (⟨S32x131072, .f32⟩ : BufTy).Contents (Elt F)),
    StableHlo.unary main_v1823 main_v1824 ((transpose S131072x32 [1, 0] · transposes_S32x131072_S131072x32_1_0) : (⟨S32x131072, .f32⟩ : BufTy).Contents (Elt F) → (⟨S131072x32, .f32⟩ : BufTy).Contents (Elt F)),
    StableHlo.binary main_v1695 main_v1824 main_v1825 (mulf : (⟨S131072x32, .f32⟩ : BufTy).Contents (Elt F) → (⟨S131072x32, .f32⟩ : BufTy).Contents (Elt F) → (⟨S131072x32, .f32⟩ : BufTy).Contents (Elt F)),
    StableHlo.nullary main_c_556 (constantI S_ 32 0#32),
    StableHlo.unary main_c_556 main_v1826 (broadcastInDim S2 ![] bcast_S_S2 : (⟨S_, .i32⟩ : BufTy).Contents (Elt F) → (⟨S2, .i32⟩ : BufTy).Contents (Elt F)),
    StableHlo.binary main_c_13 main_v1826 main_v1827 (cmpi .slt : (⟨S2, .i32⟩ : BufTy).Contents (Elt F) → (⟨S2, .i32⟩ : BufTy).Contents (Elt F) → (⟨S2, .i1⟩ : BufTy).Contents (Elt F)),
    StableHlo.nullary main_c_557 (constantI S_ 32 4#32),
    StableHlo.unary main_c_557 main_v1828 (broadcastInDim S2 ![] bcast_S_S2 : (⟨S_, .i32⟩ : BufTy).Contents (Elt F) → (⟨S2, .i32⟩ : BufTy).Contents (Elt F)),
    StableHlo.binary main_c_13 main_v1828 main_v1829 (addi : (⟨S2, .i32⟩ : BufTy).Contents (Elt F) → (⟨S2, .i32⟩ : BufTy).Contents (Elt F) → (⟨S2, .i32⟩ : BufTy).Contents (Elt F)),
    StableHlo.ternary main_v1827 main_v1829 main_c_13 main_v1830 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1830 main_v1831 (broadcastInDim S2x1 ![0] bcast_S2_S2x1_0 : (⟨S2, .i32⟩ : BufTy).Contents (Elt F) → (⟨S2x1, .i32⟩ : BufTy).Contents (Elt F)),
    StableHlo.binary main_v8 main_v1831 main_v1832 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1832 main_v1833 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1833 main_v1834 rfl shapeCasts_S131072x1_S131072,
    StableHlo.nullary main_cst_558 (constant S_ .f32 0x3F800000#32),
    StableHlo.unary main_cst_558 main_v1835 (broadcastInDim S131072 ![] bcast_S_S131072 : (⟨S_, .f32⟩ : BufTy).Contents (Elt F) → (⟨S131072, .f32⟩ : BufTy).Contents (Elt F)),
    StableHlo.binary main_v1834 main_v1835 main_v1836 (addf : (⟨S131072, .f32⟩ : BufTy).Contents (Elt F) → (⟨S131072, .f32⟩ : BufTy).Contents (Elt F) → (⟨S131072, .f32⟩ : BufTy).Contents (Elt F)),
    StableHlo.nullary main_cst_559 (constant S_ .f32 0x3F000000#32),
    StableHlo.unary main_cst_559 main_v1837 (broadcastInDim S131072 ![] bcast_S_S131072 : (⟨S_, .f32⟩ : BufTy).Contents (Elt F) → (⟨S131072, .f32⟩ : BufTy).Contents (Elt F)) ]
theorem w39_eq (c : Dev nD) : main_part39 (F := F) c = seq w39 := rfl
theorem w39_sub : (w39 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub ..⟩
theorem w39_fresh : (w39 : List (HloOp τ sig (Elt F))).Forall fun op => op.fresh = ∅ := by
  simp only [List.Forall]; repeat' constructor
set_option maxHeartbeats 4000000 in
theorem w39_chain : Chain 2648 (w39 : List (HloOp τ sig (Elt F))) :=
  Chain.cons (stepAt_unary 2648 _ _ _ rfl (by decide)) <|
  Chain.cons (stepAt_binary 2649 _ _ _ _ rfl (by decide) (by decide)) <|
  Chain.cons (stepAt_binary 2650 _ _ _ _ rfl (by decide) (by decide)) <|
  Chain.cons (stepAt_nullary 2651 _ _ rfl) <|
  Chain.cons (stepAt_unary 2652 _ _ _ rfl (by decide)) <|
  Chain.cons (stepAt_binary 2653 _ _ _ _ rfl (by decide) (by decide)) <|
  Chain.cons (stepAt_unary 2654 _ _ _ rfl (by decide)) <|
  Chain.cons (stepAt_unary 2655 _ _ _ rfl (by decide)) <|
  Chain.cons (stepAt_binary 2656 _ _ _ _ rfl (by decide) (by decide)) <|
  Chain.cons (stepAt_nullary 2657 _ _ rfl) <|
  Chain.cons (stepAt_unary 2658 _ _ _ rfl (by decide)) <|
  Chain.cons (stepAt_binary 2659 _ _ _ _ rfl (by decide) (by decide)) <|
  Chain.cons (stepAt_unary 2660 _ _ _ rfl (by decide)) <|
  Chain.cons (stepAt_unary 2661 _ _ _ rfl (by decide)) <|
  Chain.cons (stepAt_binary 2662 _ _ _ _ rfl (by decide) (by decide)) <|
  Chain.cons (stepAt_unary 2663 _ _ _ rfl (by decide)) <|
  Chain.cons (stepAt_unary 2664 _ _ _ rfl (by decide)) <|
  Chain.cons (stepAt_binary 2665 _ _ _ _ rfl (by decide) (by decide)) <|
  Chain.cons (stepAt_nullary 2666 _ _ rfl) <|
  Chain.cons (stepAt_unary 2667 _ _ _ rfl (by decide)) <|
  Chain.cons (stepAt_binary 2668 _ _ _ _ rfl (by decide) (by decide)) <|
  Chain.cons (stepAt_unary 2669 _ _ _ rfl (by decide)) <|
  Chain.cons (stepAt_unary 2670 _ _ _ rfl (by decide)) <|
  Chain.cons (stepAt_binary 2671 _ _ _ _ rfl (by decide) (by decide)) <|
  Chain.cons (stepAt_binary 2672 _ _ _ _ rfl (by decide) (by decide)) <|
  Chain.cons (stepAt_nullary 2673 _ _ rfl) <|
  Chain.cons (stepAt_unary 2674 _ _ _ rfl (by decide)) <|
  Chain.cons (stepAt_binary 2675 _ _ _ _ rfl (by decide) (by decide)) <|
  Chain.cons (stepAt_unary 2676 _ _ _ rfl (by decide)) <|
  Chain.cons (stepAt_unary 2677 _ _ _ rfl (by decide)) <|
  Chain.cons (stepAt_binary 2678 _ _ _ _ rfl (by decide) (by decide)) <|
  Chain.cons (stepAt_unary 2679 _ _ _ rfl (by decide)) <|
  Chain.cons (stepAt_unary 2680 _ _ _ rfl (by decide)) <|
  Chain.cons (stepAt_binary 2681 _ _ _ _ rfl (by decide) (by decide)) <|
  Chain.cons (stepAt_binary 2682 _ _ _ _ rfl (by decide) (by decide)) <|
  Chain.cons (stepAt_unary 2683 _ _ _ rfl (by decide)) <|
  Chain.cons (stepAt_unary 2684 _ _ _ rfl (by decide)) <|
  Chain.cons (stepAt_binary 2685 _ _ _ _ rfl (by decide) (by decide)) <|
  Chain.cons (stepAt_unary 2686 _ _ _ rfl (by decide)) <|
  Chain.cons (stepAt_unary 2687 _ _ _ rfl (by decide)) <|
  Chain.cons (stepAt_binary 2688 _ _ _ _ rfl (by decide) (by decide)) <|
  Chain.cons (stepAt_binary 2689 _ _ _ _ rfl (by decide) (by decide)) <|
  Chain.cons (stepAt_unary 2690 _ _ _ rfl (by decide)) <|
  Chain.cons (stepAt_binary 2691 _ _ _ _ rfl (by decide) (by decide)) <|
  Chain.cons (stepAt_nullary 2692 _ _ rfl) <|
  Chain.cons (stepAt_unary 2693 _ _ _ rfl (by decide)) <|
  Chain.cons (stepAt_binary 2694 _ _ _ _ rfl (by decide) (by decide)) <|
  Chain.cons (stepAt_nullary 2695 _ _ rfl) <|
  Chain.cons (stepAt_unary 2696 _ _ _ rfl (by decide)) <|
  Chain.cons (stepAt_binary 2697 _ _ _ _ rfl (by decide) (by decide)) <|
  Chain.cons (stepAt_ternary 2698 _ _ _ _ _ rfl (by decide) (by decide) (by decide)) <|
  Chain.cons (stepAt_unary 2699 _ _ _ rfl (by decide)) <|
  Chain.cons (stepAt_binary 2700 _ _ _ _ rfl (by decide) (by decide)) <|
  Chain.cons (stepAt_unary 2701 _ _ _ rfl (by decide)) <|
  Chain.cons (stepAt_reshape 2702 _ _ _ _ rfl (by decide)) <|
  Chain.cons (stepAt_nullary 2703 _ _ rfl) <|
  Chain.cons (stepAt_unary 2704 _ _ _ rfl (by decide)) <|
  Chain.cons (stepAt_binary 2705 _ _ _ _ rfl (by decide) (by decide)) <|
  Chain.cons (stepAt_nullary 2706 _ _ rfl) <|
  Chain.cons (stepAt_unary 2707 _ _ _ rfl (by decide)) <|
  Chain.nil
theorem w39_length : (w39 : List (HloOp τ sig (Elt F))).length = 60 := rfl

end Cert.ReferenceIdeal.Ops

end
-- ==== Proof.SimB11.lean ====
/- Operations 2092 … 2278 of the one program and 2101 … 2287 of the other apply the same functions to corresponding
   buffers. If both programs' final contents satisfy their own lines' equations and agree on the buffers these operations
   read from outside, they agree on what these operations write: one congruence per operation, in program order. -/
import proofs.«133805_j10187662426200_2_alg».proof.Proof.KIStretch2
import proofs.«133805_j10187662426200_2_alg».proof.Proof.RefOps3
import proofs.«133805_j10187662426200_2_alg».proof.Proof.RefOps4
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B11 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_88 : List (HloOp Cert.KernelIdeal.τ Cert.KernelIdeal.sig (Elt F))).Forall fun op => ∀ b ∈ op.writes, Φ₁ b = op.result Φ₁ b)
    (fa1 : (Cert.KernelIdeal.Gen.hostOps0_89 : List (HloOp Cert.KernelIdeal.τ Cert.KernelIdeal.sig (Elt F))).Forall fun op => ∀ b ∈ op.writes, Φ₁ b = op.result Φ₁ b)
    (fa2 : (Cert.KernelIdeal.Gen.hostOps0_90 : List (HloOp Cert.KernelIdeal.τ Cert.KernelIdeal.sig (Elt F))).Forall fun op => ∀ b ∈ op.writes, Φ₁ b = op.result Φ₁ b)
    (fa3 : (Cert.KernelIdeal.Gen.hostOps0_91 : List (HloOp Cert.KernelIdeal.τ Cert.KernelIdeal.sig (Elt F))).Forall fun op => ∀ b ∈ op.writes, Φ₁ b = op.result Φ₁ b)
    (fa4 : (Cert.KernelIdeal.Gen.hostOps0_92 : List (HloOp Cert.KernelIdeal.τ Cert.KernelIdeal.sig (Elt F))).Forall fun op => ∀ b ∈ op.writes, Φ₁ b = op.result Φ₁ b)
    (fa5 : (Cert.KernelIdeal.Gen.hostOps0_93 : List (HloOp Cert.KernelIdeal.τ Cert.KernelIdeal.sig (Elt F))).Forall fun op => ∀ b ∈ op.writes, Φ₁ b = op.result Φ₁ b)
    (fa6 : (Cert.KernelIdeal.Gen.hostOps0_94 : List (HloOp Cert.KernelIdeal.τ Cert.KernelIdeal.sig (Elt F))).Forall fun op => ∀ b ∈ op.writes, Φ₁ b = op.result Φ₁ b)
    (fa7 : (Cert.KernelIdeal.Gen.hostOps0_95 : List (HloOp Cert.KernelIdeal.τ Cert.KernelIdeal.sig (Elt F))).Forall fun op => ∀ b ∈ op.writes, Φ₁ b = op.result Φ₁ b)
    (fa8 : (Cert.KernelIdeal.Gen.hostOps0_96 : List (HloOp Cert.KernelIdeal.τ Cert.KernelIdeal.sig (Elt F))).Forall fun op => ∀ b ∈ op.writes, Φ₁ b = op.result Φ₁ b)
    (fb0 : (Cert.ReferenceIdeal.Ops.w31 : List (HloOp Cert.ReferenceIdeal.τ Cert.ReferenceIdeal.sig (Elt F))).Forall fun op => ∀ b ∈ op.writes, Φ₂ b = op.result Φ₂ b)
    (fb1 : (Cert.ReferenceIdeal.Ops.w32 : List (HloOp Cert.ReferenceIdeal.τ Cert.ReferenceIdeal.sig (Elt F))).Forall fun op => ∀ b ∈ op.writes, Φ₂ b = op.result Φ₂ b)
    (fb2 : (Cert.ReferenceIdeal.Ops.w33 : List (HloOp Cert.ReferenceIdeal.τ Cert.ReferenceIdeal.sig (Elt F))).Forall fun op => ∀ b ∈ op.writes, Φ₂ b = op.result Φ₂ b)
    (fb3 : (Cert.ReferenceIdeal.Ops.w34 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_10)) (Φ₂ (Proc.devRef .tc Cert.ReferenceIdeal.main_c_10)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x128, .f32⟩ : BufTy).Contents (Elt F)) (Φ₁ (Proc.devRef .tc Cert.KernelIdeal.main_arg13)) (Φ₂ (Proc.devRef .tc Cert.ReferenceIdeal.main_arg13)))
    : @Eq ((⟨Cert.KernelIdeal.S131072x32, .f32⟩ : BufTy).Contents (Elt F)) (Φ₁ (Proc.devRef .tc Cert.KernelIdeal.main_v1556)) (Φ₂ (Proc.devRef .tc Cert.ReferenceIdeal.main_v1565)) := by
  have e0 : @Eq ((⟨Cert.KernelIdeal.S_, .i32⟩ : BufTy).Contents (Elt F)) (Φ₁ (Proc.devRef .tc Cert.KernelIdeal.main_c_442)) (Φ₂ (Proc.devRef .tc Cert.ReferenceIdeal.main_c_442)) := step0 (β := ((⟨Cert.KernelIdeal.S_, .i32⟩ : BufTy).Contents (Elt F))) (eq0 (at_ fa0 (i := 112) rfl) :) (eq0 (at_ fb0 (i := 21) rfl) :)
  have e1 : @Eq ((⟨Cert.KernelIdeal.S2, .i32⟩ : BufTy).Contents (Elt F)) (Φ₁ (Proc.devRef .tc Cert.KernelIdeal.main_v1428)) (Φ₂ (Proc.devRef .tc Cert.ReferenceIdeal.main_v1437)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 22) rfl) :) e0
  have e2 : @Eq ((⟨Cert.KernelIdeal.S2, .i1⟩ : BufTy).Contents (Elt F)) (Φ₁ (Proc.devRef .tc Cert.KernelIdeal.main_v1429)) (Φ₂ (Proc.devRef .tc Cert.ReferenceIdeal.main_v1438)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 23) rfl) :) x0 e1
  have e3 : @Eq ((⟨Cert.KernelIdeal.S_, .i32⟩ : BufTy).Contents (Elt F)) (Φ₁ (Proc.devRef .tc Cert.KernelIdeal.main_c_443)) (Φ₂ (Proc.devRef .tc Cert.ReferenceIdeal.main_c_443)) := step0 (β := ((⟨Cert.KernelIdeal.S_, .i32⟩ : BufTy).Contents (Elt F))) (eq0 (at_ fa0 (i := 115) rfl) :) (eq0 (at_ fb0 (i := 24) rfl) :)
  have e4 : @Eq ((⟨Cert.KernelIdeal.S2, .i32⟩ : BufTy).Contents (Elt F)) (Φ₁ (Proc.devRef .tc Cert.KernelIdeal.main_v1430)) (Φ₂ (Proc.devRef .tc Cert.ReferenceIdeal.main_v1439)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 25) rfl) :) e3
  have e5 : @Eq ((⟨Cert.KernelIdeal.S2, .i32⟩ : BufTy).Contents (Elt F)) (Φ₁ (Proc.devRef .tc Cert.KernelIdeal.main_v1431)) (Φ₂ (Proc.devRef .tc Cert.ReferenceIdeal.main_v1440)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 26) rfl) :) x0 e4
  have e6 : @Eq ((⟨Cert.KernelIdeal.S2, .i32⟩ : BufTy).Contents (Elt F)) (Φ₁ (Proc.devRef .tc Cert.KernelIdeal.main_v1432)) (Φ₂ (Proc.devRef .tc Cert.ReferenceIdeal.main_v1441)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 27) rfl) :) e2 e5 x0
  have e7 : @Eq ((⟨Cert.KernelIdeal.S2x1, .i32⟩ : BufTy).Contents (Elt F)) (Φ₁ (Proc.devRef .tc Cert.KernelIdeal.main_v1433)) (Φ₂ (Proc.devRef .tc Cert.ReferenceIdeal.main_v1442)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 28) rfl) :) e6
  have e8 : @Eq ((⟨Cert.KernelIdeal.S131072x2, .f32⟩ : BufTy).Contents (Elt F)) (Φ₁ (Proc.devRef .tc Cert.KernelIdeal.main_v1434)) (Φ₂ (Proc.devRef .tc Cert.ReferenceIdeal.main_v1443)) := by rw [eq2 (at_ fa0 (i := 120) rfl), eq2 (at_ fb0 (i := 29) rfl), x1, e7] <;> rfl
  have e9 : @Eq ((⟨Cert.KernelIdeal.S131072x1, .f32⟩ : BufTy).Contents (Elt F)) (Φ₁ (Proc.devRef .tc Cert.KernelIdeal.main_v1435)) (Φ₂ (Proc.devRef .tc Cert.ReferenceIdeal.main_v1444)) := by rw [eq1 (at_ fa0 (i := 121) rfl), eq1 (at_ fb0 (i := 30) rfl), e8] <;> rfl
  have e10 : @Eq ((⟨Cert.KernelIdeal.S131072, .f32⟩ : BufTy).Contents (Elt F)) (Φ₁ (Proc.devRef .tc Cert.KernelIdeal.main_v1436)) (Φ₂ (Proc.devRef .tc Cert.ReferenceIdeal.main_v1445)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 31) rfl) :) e9
  have e11 : @Eq ((⟨Cert.KernelIdeal.S_, .f32⟩ : BufTy).Contents (Elt F)) (Φ₁ (Proc.devRef .tc Cert.KernelIdeal.main_cst_444)) (Φ₂ (Proc.devRef .tc Cert.ReferenceIdeal.main_cst_444)) := step0 (β := ((⟨Cert.KernelIdeal.S_, .f32⟩ : BufTy).Contents (Elt F))) (eq0 (at_ fa0 (i := 123) rfl) :) (eq0 (at_ fb0 (i := 32) rfl) :)
  have e12 : @Eq ((⟨Cert.KernelIdeal.S131072, .f32⟩ : BufTy).Contents (Elt F)) (Φ₁ (Proc.devRef .tc Cert.KernelIdeal.main_v1437)) (Φ₂ (Proc.devRef .tc Cert.ReferenceIdeal.main_v1446)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 33) rfl) :) e11
  have e13 : @Eq ((⟨Cert.KernelIdeal.S131072, .f32⟩ : BufTy).Contents (Elt F)) (Φ₁ (Proc.devRef .tc Cert.KernelIdeal.main_v1438)) (Φ₂ (Proc.devRef .tc Cert.ReferenceIdeal.main_v1447)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 34) rfl) :) e10 e12
  have e14 : @Eq ((⟨Cert.KernelIdeal.S_, .f32⟩ : BufTy).Contents (Elt F)) (Φ₁ (Proc.devRef .tc Cert.KernelIdeal.main_cst_445)) (Φ₂ (Proc.devRef .tc Cert.ReferenceIdeal.main_cst_445)) := step0 (β := ((⟨Cert.KernelIdeal.S_, .f32⟩ : BufTy).Contents (Elt F))) (eq0 (at_ fa0 (i := 126) rfl) :) (eq0 (at_ fb0 (i := 35) rfl) :)
  have e15 : @Eq ((⟨Cert.KernelIdeal.S131072, .f32⟩ : BufTy).Contents (Elt F)) (Φ₁ (Proc.devRef .tc Cert.KernelIdeal.main_v1439)) (Φ₂ (Proc.devRef .tc Cert.ReferenceIdeal.main_v1448)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 36) rfl) :) e14
  have e16 : @Eq ((⟨Cert.KernelIdeal.S131072, .f32⟩ : BufTy).Contents (Elt F)) (Φ₁ (Proc.devRef .tc Cert.KernelIdeal.main_v1440)) (Φ₂ (Proc.devRef .tc Cert.ReferenceIdeal.main_v1449)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 37) rfl) :) e13 e15
  have e17 : @Eq ((⟨Cert.KernelIdeal.S_, .f32⟩ : BufTy).Contents (Elt F)) (Φ₁ (Proc.devRef .tc Cert.KernelIdeal.main_cst_446)) (Φ₂ (Proc.devRef .tc Cert.ReferenceIdeal.main_cst_446)) := step0 (β := ((⟨Cert.KernelIdeal.S_, .f32⟩ : BufTy).Contents (Elt F))) (eq0 (at_ fa0 (i := 129) rfl) :) (eq0 (at_ fb0 (i := 38) rfl) :)
  have e18 : @Eq ((⟨Cert.KernelIdeal.S131072, .f32⟩ : BufTy).Contents (Elt F)) (Φ₁ (Proc.devRef .tc Cert.KernelIdeal.main_v1441)) (Φ₂ (Proc.devRef .tc Cert.ReferenceIdeal.main_v1450)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 39) rfl) :) e17
  have e19 : @Eq ((⟨Cert.KernelIdeal.S131072, .f32⟩ : BufTy).Contents (Elt F)) (Φ₁ (Proc.devRef .tc Cert.KernelIdeal.main_v1442)) (Φ₂ (Proc.devRef .tc Cert.ReferenceIdeal.main_v1451)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 40) rfl) :) e16 e18
  have e20 : @Eq ((⟨Cert.KernelIdeal.S131072x1, .f32⟩ : BufTy).Contents (Elt F)) (Φ₁ (Proc.devRef .tc Cert.KernelIdeal.main_v1443)) (Φ₂ (Proc.devRef .tc Cert.ReferenceIdeal.main_v1452)) := by rw [eq1 (at_ fa0 (i := 132) rfl), eq1 (at_ fb0 (i := 41) rfl), e8] <;> rfl
  have e21 : @Eq ((⟨Cert.KernelIdeal.S131072, .f32⟩ : BufTy).Contents (Elt F)) (Φ₁ (Proc.devRef .tc Cert.KernelIdeal.main_v1444)) (Φ₂ (Proc.devRef .tc Cert.ReferenceIdeal.main_v1453)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 42) rfl) :) e20
  have e22 : @Eq ((⟨Cert.KernelIdeal.S_, .f32⟩ : BufTy).Contents (Elt F)) (Φ₁ (Proc.devRef .tc Cert.KernelIdeal.main_cst_447)) (Φ₂ (Proc.devRef .tc Cert.ReferenceIdeal.main_cst_447)) := step0 (β := ((⟨Cert.KernelIdeal.S_, .f32⟩ : BufTy).Contents (Elt F))) (eq0 (at_ fa0 (i := 134) rfl) :) (eq0 (at_ fb0 (i := 43) rfl) :)
  have e23 : @Eq ((⟨Cert.KernelIdeal.S131072, .f32⟩ : BufTy).Contents (Elt F)) (Φ₁ (Proc.devRef .tc Cert.KernelIdeal.main_v1445)) (Φ₂ (Proc.devRef .tc Cert.ReferenceIdeal.main_v1454)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 44) rfl) :) e22
  have e24 : @Eq ((⟨Cert.KernelIdeal.S131072, .f32⟩ : BufTy).Contents (Elt F)) (Φ₁ (Proc.devRef .tc Cert.KernelIdeal.main_v1446)) (Φ₂ (Proc.devRef .tc Cert.ReferenceIdeal.main_v1455)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 45) rfl) :) e21 e23
  have e25 : @Eq ((⟨Cert.KernelIdeal.S_, .f32⟩ : BufTy).Contents (Elt F)) (Φ₁ (Proc.devRef .tc Cert.KernelIdeal.main_cst_448)) (Φ₂ (Proc.devRef .tc Cert.ReferenceIdeal.main_cst_448)) := step0 (β := ((⟨Cert.KernelIdeal.S_, .f32⟩ : BufTy).Contents (Elt F))) (eq0 (at_ fa0 (i := 137) rfl) :) (eq0 (at_ fb0 (i := 46) rfl) :)
  have e26 : @Eq ((⟨Cert.KernelIdeal.S131072, .f32⟩ : BufTy).Contents (Elt F)) (Φ₁ (Proc.devRef .tc Cert.KernelIdeal.main_v1447)) (Φ₂ (Proc.devRef .tc Cert.ReferenceIdeal.main_v1456)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 47) rfl) :) e25
  have e27 : @Eq ((⟨Cert.KernelIdeal.S131072, .f32⟩ : BufTy).Contents (Elt F)) (Φ₁ (Proc.devRef .tc Cert.KernelIdeal.main_v1448)) (Φ₂ (Proc.devRef .tc Cert.ReferenceIdeal.main_v1457)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 48) rfl) :) e24 e26
  have e28 : @Eq ((⟨Cert.KernelIdeal.S_, .f32⟩ : BufTy).Contents (Elt F)) (Φ₁ (Proc.devRef .tc Cert.KernelIdeal.main_cst_449)) (Φ₂ (Proc.devRef .tc Cert.ReferenceIdeal.main_cst_449)) := step0 (β := ((⟨Cert.KernelIdeal.S_, .f32⟩ : BufTy).Contents (Elt F))) (eq0 (at_ fa0 (i := 140) rfl) :) (eq0 (at_ fb0 (i := 49) rfl) :)
  have e29 : @Eq ((⟨Cert.KernelIdeal.S131072, .f32⟩ : BufTy).Contents (Elt F)) (Φ₁ (Proc.devRef .tc Cert.KernelIdeal.main_v1449)) (Φ₂ (Proc.devRef .tc Cert.ReferenceIdeal.main_v1458)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 50) rfl) :) e28
  have e30 : @Eq ((⟨Cert.KernelIdeal.S131072, .f32⟩ : BufTy).Contents (Elt F)) (Φ₁ (Proc.devRef .tc Cert.KernelIdeal.main_v1450)) (Φ₂ (Proc.devRef .tc Cert.ReferenceIdeal.main_v1459)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 51) rfl) :) e27 e29
  have e31 : @Eq ((⟨Cert.KernelIdeal.S131072, .f32⟩ : BufTy).Contents (Elt F)) (Φ₁ (Proc.devRef .tc Cert.KernelIdeal.main_v1451)) (Φ₂ (Proc.devRef .tc Cert.ReferenceIdeal.main_v1460)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 52) rfl) :) e19
  have e32 : @Eq ((⟨Cert.KernelIdeal.S131072, .f32⟩ : BufTy).Contents (Elt F)) (Φ₁ (Proc.devRef .tc Cert.KernelIdeal.main_v1452)) (Φ₂ (Proc.devRef .tc Cert.ReferenceIdeal.main_v1461)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 53) rfl) :) e30
  have e33 : @Eq ((⟨Cert.KernelIdeal.S131072, .f32⟩ : BufTy).Contents (Elt F)) (Φ₁ (Proc.devRef .tc Cert.KernelIdeal.main_v1453)) (Φ₂ (Proc.devRef .tc Cert.ReferenceIdeal.main_v1462)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 54) rfl) :) e19 e31
  have e34 : @Eq ((⟨Cert.KernelIdeal.S131072, .f32⟩ : BufTy).Contents (Elt F)) (Φ₁ (Proc.devRef .tc Cert.KernelIdeal.main_v1454)) (Φ₂ (Proc.devRef .tc Cert.ReferenceIdeal.main_v1463)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 55) rfl) :) e30 e32
  have e35 : @Eq ((⟨Cert.KernelIdeal.S131072, .i32⟩ : BufTy).Contents (Elt F)) (Φ₁ (Proc.devRef .tc Cert.KernelIdeal.main_v1455)) (Φ₂ (Proc.devRef .tc Cert.ReferenceIdeal.main_v1464)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 56) rfl) :) e31
  have e36 : @Eq ((⟨Cert.KernelIdeal.S_, .i32⟩ : BufTy).Contents (Elt F)) (Φ₁ (Proc.devRef .tc Cert.KernelIdeal.main_c_450)) (Φ₂ (Proc.devRef .tc Cert.ReferenceIdeal.main_c_450)) := step0 (β := ((⟨Cert.KernelIdeal.S_, .i32⟩ : BufTy).Contents (Elt F))) (eq0 (at_ fa0 (i := 148) rfl) :) (eq0 (at_ fb0 (i := 57) rfl) :)
  have e37 : @Eq ((⟨Cert.KernelIdeal.S_, .i32⟩ : BufTy).Contents (Elt F)) (Φ₁ (Proc.devRef .tc Cert.KernelIdeal.main_c_451)) (Φ₂ (Proc.devRef .tc Cert.ReferenceIdeal.main_c_451)) := step0 (β := ((⟨Cert.KernelIdeal.S_, .i32⟩ : BufTy).Contents (Elt F))) (eq0 (at_ fa0 (i := 149) rfl) :) (eq0 (at_ fb0 (i := 58) rfl) :)
  have e38 : @Eq ((⟨Cert.KernelIdeal.S_, .i32⟩ : BufTy).Contents (Elt F)) (Φ₁ (Proc.devRef .tc Cert.KernelIdeal.main_call44_v0)) (Φ₂ (Proc.devRef .tc Cert.ReferenceIdeal.main_call44_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 59) rfl) :) e36
  have e39 : @Eq ((⟨Cert.KernelIdeal.S131072, .i32⟩ : BufTy).Contents (Elt F)) (Φ₁ (Proc.devRef .tc Cert.KernelIdeal.main_call44_v1)) (Φ₂ (Proc.devRef .tc Cert.ReferenceIdeal.main_call44_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 60) rfl) :) e38
  have e40 : @Eq ((⟨Cert.KernelIdeal.S131072, .i32⟩ : BufTy).Contents (Elt F)) (Φ₁ (Proc.devRef .tc Cert.KernelIdeal.main_call44_v2)) (Φ₂ (Proc.devRef .tc Cert.ReferenceIdeal.main_call44_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 61) rfl) :) e39 e35
  have e41 : @Eq ((⟨Cert.KernelIdeal.S_, .i32⟩ : BufTy).Contents (Elt F)) (Φ₁ (Proc.devRef .tc Cert.KernelIdeal.main_call44_v3)) (Φ₂ (Proc.devRef .tc Cert.ReferenceIdeal.main_call44_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 62) rfl) :) e37
  have e42 : @Eq ((⟨Cert.KernelIdeal.S131072, .i32⟩ : BufTy).Contents (Elt F)) (Φ₁ (Proc.devRef .tc Cert.KernelIdeal.main_call44_v4)) (Φ₂ (Proc.devRef .tc Cert.ReferenceIdeal.main_call44_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 63) rfl) :) e41
  have e43 : @Eq ((⟨Cert.KernelIdeal.S131072, .i32⟩ : BufTy).Contents (Elt F)) (Φ₁ (Proc.devRef .tc Cert.KernelIdeal.main_v1456)) (Φ₂ (Proc.devRef .tc Cert.ReferenceIdeal.main_v1465)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 64) rfl) :) e42 e40
  have e44 : @Eq ((⟨Cert.KernelIdeal.S_, .i32⟩ : BufTy).Contents (Elt F)) (Φ₁ (Proc.devRef .tc Cert.KernelIdeal.main_c_452)) (Φ₂ (Proc.devRef .tc Cert.ReferenceIdeal.main_c_452)) := step0 (β := ((⟨Cert.KernelIdeal.S_, .i32⟩ : BufTy).Contents (Elt F))) (eq0 (at_ fa2 (i := 0) rfl) :) (eq0 (at_ fb1 (i := 0) rfl) :)
  have e45 : @Eq ((⟨Cert.KernelIdeal.S131072, .i32⟩ : BufTy).Contents (Elt F)) (Φ₁ (Proc.devRef .tc Cert.KernelIdeal.main_v1457)) (Φ₂ (Proc.devRef .tc Cert.ReferenceIdeal.main_v1466)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 1) rfl) :) e44
  have e46 : @Eq ((⟨Cert.KernelIdeal.S131072, .i32⟩ : BufTy).Contents (Elt F)) (Φ₁ (Proc.devRef .tc Cert.KernelIdeal.main_v1458)) (Φ₂ (Proc.devRef .tc Cert.ReferenceIdeal.main_v1467)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 2) rfl) :) e43 e45
  have e47 : @Eq ((⟨Cert.KernelIdeal.S_, .i32⟩ : BufTy).Contents (Elt F)) (Φ₁ (Proc.devRef .tc Cert.KernelIdeal.main_c_453)) (Φ₂ (Proc.devRef .tc Cert.ReferenceIdeal.main_c_453)) := step0 (β := ((⟨Cert.KernelIdeal.S_, .i32⟩ : BufTy).Contents (Elt F))) (eq0 (at_ fa2 (i := 3) rfl) :) (eq0 (at_ fb1 (i := 3) rfl) :)
  have e48 : @Eq ((⟨Cert.KernelIdeal.S_, .i32⟩ : BufTy).Contents (Elt F)) (Φ₁ (Proc.devRef .tc Cert.KernelIdeal.main_c_454)) (Φ₂ (Proc.devRef .tc Cert.ReferenceIdeal.main_c_454)) := step0 (β := ((⟨Cert.KernelIdeal.S_, .i32⟩ : BufTy).Contents (Elt F))) (eq0 (at_ fa2 (i := 4) rfl) :) (eq0 (at_ fb1 (i := 4) rfl) :)
  have e49 : @Eq ((⟨Cert.KernelIdeal.S_, .i32⟩ : BufTy).Contents (Elt F)) (Φ₁ (Proc.devRef .tc Cert.KernelIdeal.main_call45_v0)) (Φ₂ (Proc.devRef .tc Cert.ReferenceIdeal.main_call45_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 5) rfl) :) e47
  have e50 : @Eq ((⟨Cert.KernelIdeal.S131072, .i32⟩ : BufTy).Contents (Elt F)) (Φ₁ (Proc.devRef .tc Cert.KernelIdeal.main_call45_v1)) (Φ₂ (Proc.devRef .tc Cert.ReferenceIdeal.main_call45_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 6) rfl) :) e49
  have e51 : @Eq ((⟨Cert.KernelIdeal.S131072, .i32⟩ : BufTy).Contents (Elt F)) (Φ₁ (Proc.devRef .tc Cert.KernelIdeal.main_call45_v2)) (Φ₂ (Proc.devRef .tc Cert.ReferenceIdeal.main_call45_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 7) rfl) :) e50 e46
  have e52 : @Eq ((⟨Cert.KernelIdeal.S_, .i32⟩ : BufTy).Contents (Elt F)) (Φ₁ (Proc.devRef .tc Cert.KernelIdeal.main_call45_v3)) (Φ₂ (Proc.devRef .tc Cert.ReferenceIdeal.main_call45_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 8) rfl) :) e48
  have e53 : @Eq ((⟨Cert.KernelIdeal.S131072, .i32⟩ : BufTy).Contents (Elt F)) (Φ₁ (Proc.devRef .tc Cert.KernelIdeal.main_call45_v4)) (Φ₂ (Proc.devRef .tc Cert.ReferenceIdeal.main_call45_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 9) rfl) :) e52
  have e54 : @Eq ((⟨Cert.KernelIdeal.S131072, .i32⟩ : BufTy).Contents (Elt F)) (Φ₁ (Proc.devRef .tc Cert.KernelIdeal.main_v1459)) (Φ₂ (Proc.devRef .tc Cert.ReferenceIdeal.main_v1468)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 10) rfl) :) e53 e51
  have e55 : @Eq ((⟨Cert.KernelIdeal.S131072, .i32⟩ : BufTy).Contents (Elt F)) (Φ₁ (Proc.devRef .tc Cert.KernelIdeal.main_v1460)) (Φ₂ (Proc.devRef .tc Cert.ReferenceIdeal.main_v1469)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 11) rfl) :) e32
  have e56 : @Eq ((⟨Cert.KernelIdeal.S_, .i32⟩ : BufTy).Contents (Elt F)) (Φ₁ (Proc.devRef .tc Cert.KernelIdeal.main_c_455)) (Φ₂ (Proc.devRef .tc Cert.ReferenceIdeal.main_c_455)) := step0 (β := ((⟨Cert.KernelIdeal.S_, .i32⟩ : BufTy).Contents (Elt F))) (eq0 (at_ fa4 (i := 1) rfl) :) (eq0 (at_ fb1 (i := 12) rfl) :)
  have e57 : @Eq ((⟨Cert.KernelIdeal.S_, .i32⟩ : BufTy).Contents (Elt F)) (Φ₁ (Proc.devRef .tc Cert.KernelIdeal.main_c_456)) (Φ₂ (Proc.devRef .tc Cert.ReferenceIdeal.main_c_456)) := step0 (β := ((⟨Cert.KernelIdeal.S_, .i32⟩ : BufTy).Contents (Elt F))) (eq0 (at_ fa4 (i := 2) rfl) :) (eq0 (at_ fb1 (i := 13) rfl) :)
  have e58 : @Eq ((⟨Cert.KernelIdeal.S_, .i32⟩ : BufTy).Contents (Elt F)) (Φ₁ (Proc.devRef .tc Cert.KernelIdeal.main_call46_v0)) (Φ₂ (Proc.devRef .tc Cert.ReferenceIdeal.main_call46_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 14) rfl) :) e56
  have e59 : @Eq ((⟨Cert.KernelIdeal.S131072, .i32⟩ : BufTy).Contents (Elt F)) (Φ₁ (Proc.devRef .tc Cert.KernelIdeal.main_call46_v1)) (Φ₂ (Proc.devRef .tc Cert.ReferenceIdeal.main_call46_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 15) rfl) :) e58
  have e60 : @Eq ((⟨Cert.KernelIdeal.S131072, .i32⟩ : BufTy).Contents (Elt F)) (Φ₁ (Proc.devRef .tc Cert.KernelIdeal.main_call46_v2)) (Φ₂ (Proc.devRef .tc Cert.ReferenceIdeal.main_call46_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 16) rfl) :) e59 e55
  have e61 : @Eq ((⟨Cert.KernelIdeal.S_, .i32⟩ : BufTy).Contents (Elt F)) (Φ₁ (Proc.devRef .tc Cert.KernelIdeal.main_call46_v3)) (Φ₂ (Proc.devRef .tc Cert.ReferenceIdeal.main_call46_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 17) rfl) :) e57
  have e62 : @Eq ((⟨Cert.KernelIdeal.S131072, .i32⟩ : BufTy).Contents (Elt F)) (Φ₁ (Proc.devRef .tc Cert.KernelIdeal.main_call46_v4)) (Φ₂ (Proc.devRef .tc Cert.ReferenceIdeal.main_call46_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 18) rfl) :) e61
  have e63 : @Eq ((⟨Cert.KernelIdeal.S131072, .i32⟩ : BufTy).Contents (Elt F)) (Φ₁ (Proc.devRef .tc Cert.KernelIdeal.main_v1461)) (Φ₂ (Proc.devRef .tc Cert.ReferenceIdeal.main_v1470)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 19) rfl) :) e62 e60
  have e64 : @Eq ((⟨Cert.KernelIdeal.S_, .i32⟩ : BufTy).Contents (Elt F)) (Φ₁ (Proc.devRef .tc Cert.KernelIdeal.main_c_457)) (Φ₂ (Proc.devRef .tc Cert.ReferenceIdeal.main_c_457)) := step0 (β := ((⟨Cert.KernelIdeal.S_, .i32⟩ : BufTy).Contents (Elt F))) (eq0 (at_ fa6 (i := 0) rfl) :) (eq0 (at_ fb1 (i := 20) rfl) :)
  have e65 : @Eq ((⟨Cert.KernelIdeal.S131072, .i32⟩ : BufTy).Contents (Elt F)) (Φ₁ (Proc.devRef .tc Cert.KernelIdeal.main_v1462)) (Φ₂ (Proc.devRef .tc Cert.ReferenceIdeal.main_v1471)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 21) rfl) :) e64
  have e66 : @Eq ((⟨Cert.KernelIdeal.S131072, .i32⟩ : BufTy).Contents (Elt F)) (Φ₁ (Proc.devRef .tc Cert.KernelIdeal.main_v1463)) (Φ₂ (Proc.devRef .tc Cert.ReferenceIdeal.main_v1472)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 22) rfl) :) e63 e65
  have e67 : @Eq ((⟨Cert.KernelIdeal.S_, .i32⟩ : BufTy).Contents (Elt F)) (Φ₁ (Proc.devRef .tc Cert.KernelIdeal.main_c_458)) (Φ₂ (Proc.devRef .tc Cert.ReferenceIdeal.main_c_458)) := step0 (β := ((⟨Cert.KernelIdeal.S_, .i32⟩ : BufTy).Contents (Elt F))) (eq0 (at_ fa6 (i := 3) rfl) :) (eq0 (at_ fb1 (i := 23) rfl) :)
  have e68 : @Eq ((⟨Cert.KernelIdeal.S_, .i32⟩ : BufTy).Contents (Elt F)) (Φ₁ (Proc.devRef .tc Cert.KernelIdeal.main_c_459)) (Φ₂ (Proc.devRef .tc Cert.ReferenceIdeal.main_c_459)) := step0 (β := ((⟨Cert.KernelIdeal.S_, .i32⟩ : BufTy).Contents (Elt F))) (eq0 (at_ fa6 (i := 4) rfl) :) (eq0 (at_ fb1 (i := 24) rfl) :)
  have e69 : @Eq ((⟨Cert.KernelIdeal.S_, .i32⟩ : BufTy).Contents (Elt F)) (Φ₁ (Proc.devRef .tc Cert.KernelIdeal.main_call47_v0)) (Φ₂ (Proc.devRef .tc Cert.ReferenceIdeal.main_call47_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 25) rfl) :) e67
  have e70 : @Eq ((⟨Cert.KernelIdeal.S131072, .i32⟩ : BufTy).Contents (Elt F)) (Φ₁ (Proc.devRef .tc Cert.KernelIdeal.main_call47_v1)) (Φ₂ (Proc.devRef .tc Cert.ReferenceIdeal.main_call47_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 26) rfl) :) e69
  have e71 : @Eq ((⟨Cert.KernelIdeal.S131072, .i32⟩ : BufTy).Contents (Elt F)) (Φ₁ (Proc.devRef .tc Cert.KernelIdeal.main_call47_v2)) (Φ₂ (Proc.devRef .tc Cert.ReferenceIdeal.main_call47_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 27) rfl) :) e70 e66
  have e72 : @Eq ((⟨Cert.KernelIdeal.S_, .i32⟩ : BufTy).Contents (Elt F)) (Φ₁ (Proc.devRef .tc Cert.KernelIdeal.main_call47_v3)) (Φ₂ (Proc.devRef .tc Cert.ReferenceIdeal.main_call47_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 28) rfl) :) e68
  have e73 : @Eq ((⟨Cert.KernelIdeal.S131072, .i32⟩ : BufTy).Contents (Elt F)) (Φ₁ (Proc.devRef .tc Cert.KernelIdeal.main_call47_v4)) (Φ₂ (Proc.devRef .tc Cert.ReferenceIdeal.main_call47_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 29) rfl) :) e72
  have e74 : @Eq ((⟨Cert.KernelIdeal.S131072, .i32⟩ : BufTy).Contents (Elt F)) (Φ₁ (Proc.devRef .tc Cert.KernelIdeal.main_v1464)) (Φ₂ (Proc.devRef .tc Cert.ReferenceIdeal.main_v1473)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 30) rfl) :) e73 e71
  have e75 : @Eq ((⟨Cert.KernelIdeal.S_, .i32⟩ : BufTy).Contents (Elt F)) (Φ₁ (Proc.devRef .tc Cert.KernelIdeal.main_c_460)) (Φ₂ (Proc.devRef .tc Cert.ReferenceIdeal.main_c_460)) := step0 (β := ((⟨Cert.KernelIdeal.S_, .i32⟩ : BufTy).Contents (Elt F))) (eq0 (at_ fa8 (i := 0) rfl) :) (eq0 (at_ fb1 (i := 31) rfl) :)
  have e76 : @Eq ((⟨Cert.KernelIdeal.S131072, .i32⟩ : BufTy).Contents (Elt F)) (Φ₁ (Proc.devRef .tc Cert.KernelIdeal.main_v1465)) (Φ₂ (Proc.devRef .tc Cert.ReferenceIdeal.main_v1474)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 32) rfl) :) e75
  have e77 : @Eq ((⟨Cert.KernelIdeal.S131072, .i1⟩ : BufTy).Contents (Elt F)) (Φ₁ (Proc.devRef .tc Cert.KernelIdeal.main_v1466)) (Φ₂ (Proc.devRef .tc Cert.ReferenceIdeal.main_v1475)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 33) rfl) :) e63 e76
  have e78 : @Eq ((⟨Cert.KernelIdeal.S_, .i32⟩ : BufTy).Contents (Elt F)) (Φ₁ (Proc.devRef .tc Cert.KernelIdeal.main_c_461)) (Φ₂ (Proc.devRef .tc Cert.ReferenceIdeal.main_c_461)) := step0 (β := ((⟨Cert.KernelIdeal.S_, .i32⟩ : BufTy).Contents (Elt F))) (eq0 (at_ fa8 (i := 3) rfl) :) (eq0 (at_ fb1 (i := 34) rfl) :)
  have e79 : @Eq ((⟨Cert.KernelIdeal.S131072, .i32⟩ : BufTy).Contents (Elt F)) (Φ₁ (Proc.devRef .tc Cert.KernelIdeal.main_v1467)) (Φ₂ (Proc.devRef .tc Cert.ReferenceIdeal.main_v1476)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 35) rfl) :) e78
  have e80 : @Eq ((⟨Cert.KernelIdeal.S131072, .i32⟩ : BufTy).Contents (Elt F)) (Φ₁ (Proc.devRef .tc Cert.KernelIdeal.main_v1468)) (Φ₂ (Proc.devRef .tc Cert.ReferenceIdeal.main_v1477)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 36) rfl) :) e63 e79
  have e81 : @Eq ((⟨Cert.KernelIdeal.S131072, .i32⟩ : BufTy).Contents (Elt F)) (Φ₁ (Proc.devRef .tc Cert.KernelIdeal.main_v1469)) (Φ₂ (Proc.devRef .tc Cert.ReferenceIdeal.main_v1478)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 37) rfl) :) e77 e80 e63
  have e82 : @Eq ((⟨Cert.KernelIdeal.S_, .i32⟩ : BufTy).Contents (Elt F)) (Φ₁ (Proc.devRef .tc Cert.KernelIdeal.main_c_462)) (Φ₂ (Proc.devRef .tc Cert.ReferenceIdeal.main_c_462)) := step0 (β := ((⟨Cert.KernelIdeal.S_, .i32⟩ : BufTy).Contents (Elt F))) (eq0 (at_ fa8 (i := 7) rfl) :) (eq0 (at_ fb1 (i := 38) rfl) :)
  have e83 : @Eq ((⟨Cert.KernelIdeal.S131072, .i32⟩ : BufTy).Contents (Elt F)) (Φ₁ (Proc.devRef .tc Cert.KernelIdeal.main_v1470)) (Φ₂ (Proc.devRef .tc Cert.ReferenceIdeal.main_v1479)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 39) rfl) :) e82
  have e84 : @Eq ((⟨Cert.KernelIdeal.S131072, .i1⟩ : BufTy).Contents (Elt F)) (Φ₁ (Proc.devRef .tc Cert.KernelIdeal.main_v1471)) (Φ₂ (Proc.devRef .tc Cert.ReferenceIdeal.main_v1480)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 40) rfl) :) e43 e83
  have e85 : @Eq ((⟨Cert.KernelIdeal.S_, .i32⟩ : BufTy).Contents (Elt F)) (Φ₁ (Proc.devRef .tc Cert.KernelIdeal.main_c_463)) (Φ₂ (Proc.devRef .tc Cert.ReferenceIdeal.main_c_463)) := step0 (β := ((⟨Cert.KernelIdeal.S_, .i32⟩ : BufTy).Contents (Elt F))) (eq0 (at_ fa8 (i := 10) rfl) :) (eq0 (at_ fb1 (i := 41) rfl) :)
  have e86 : @Eq ((⟨Cert.KernelIdeal.S131072, .i32⟩ : BufTy).Contents (Elt F)) (Φ₁ (Proc.devRef .tc Cert.KernelIdeal.main_v1472)) (Φ₂ (Proc.devRef .tc Cert.ReferenceIdeal.main_v1481)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 42) rfl) :) e85
  have e87 : @Eq ((⟨Cert.KernelIdeal.S131072, .i32⟩ : BufTy).Contents (Elt F)) (Φ₁ (Proc.devRef .tc Cert.KernelIdeal.main_v1473)) (Φ₂ (Proc.devRef .tc Cert.ReferenceIdeal.main_v1482)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 43) rfl) :) e43 e86
  have e88 : @Eq ((⟨Cert.KernelIdeal.S131072, .i32⟩ : BufTy).Contents (Elt F)) (Φ₁ (Proc.devRef .tc Cert.KernelIdeal.main_v1474)) (Φ₂ (Proc.devRef .tc Cert.ReferenceIdeal.main_v1483)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 44) rfl) :) e84 e87 e43
  have e89 : @Eq ((⟨Cert.KernelIdeal.S131072x1, .i32⟩ : BufTy).Contents (Elt F)) (Φ₁ (Proc.devRef .tc Cert.KernelIdeal.main_v1475)) (Φ₂ (Proc.devRef .tc Cert.ReferenceIdeal.main_v1484)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 45) rfl) :) e81
  have e90 : @Eq ((⟨Cert.KernelIdeal.S131072x1, .i32⟩ : BufTy).Contents (Elt F)) (Φ₁ (Proc.devRef .tc Cert.KernelIdeal.main_v1476)) (Φ₂ (Proc.devRef .tc Cert.ReferenceIdeal.main_v1485)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 46) rfl) :) e88
  have e91 : @Eq ((⟨Cert.KernelIdeal.S131072x2, .i32⟩ : BufTy).Contents (Elt F)) (Φ₁ (Proc.devRef .tc Cert.KernelIdeal.main_v1477)) (Φ₂ (Proc.devRef .tc Cert.ReferenceIdeal.main_v1486)) := by rw [eq2 (at_ fa8 (i := 16) rfl), eq2 (at_ fb1 (i := 47) rfl), e89, e90] <;> rfl
  have e92 : @Eq ((⟨Cert.KernelIdeal.S32x131072, .f32⟩ : BufTy).Contents (Elt F)) (Φ₁ (Proc.devRef .tc Cert.KernelIdeal.main_v1478)) (Φ₂ (Proc.devRef .tc Cert.ReferenceIdeal.main_v1487)) := by rw [eq2 (at_ fa8 (i := 17) rfl), eq2 (at_ fb1 (i := 48) rfl), x2, e91] <;> rfl
  have e93 : @Eq ((⟨Cert.KernelIdeal.S_, .i32⟩ : BufTy).Contents (Elt F)) (Φ₁ (Proc.devRef .tc Cert.KernelIdeal.main_c_464)) (Φ₂ (Proc.devRef .tc Cert.ReferenceIdeal.main_c_464)) := step0 (β := ((⟨Cert.KernelIdeal.S_, .i32⟩ : BufTy).Contents (Elt F))) (eq0 (at_ fa8 (i := 18) rfl) :) (eq0 (at_ fb1 (i := 49) rfl) :)
  have e94 : @Eq ((⟨Cert.KernelIdeal.S131072, .i32⟩ : BufTy).Contents (Elt F)) (Φ₁ (Proc.devRef .tc Cert.KernelIdeal.main_v1479)) (Φ₂ (Proc.devRef .tc Cert.ReferenceIdeal.main_v1488)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 50) rfl) :) e93
  have e95 : @Eq ((⟨Cert.KernelIdeal.S131072, .i1⟩ : BufTy).Contents (Elt F)) (Φ₁ (Proc.devRef .tc Cert.KernelIdeal.main_v1480)) (Φ₂ (Proc.devRef .tc Cert.ReferenceIdeal.main_v1489)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 51) rfl) :) e63 e94
  have e96 : @Eq ((⟨Cert.KernelIdeal.S_, .i32⟩ : BufTy).Contents (Elt F)) (Φ₁ (Proc.devRef .tc Cert.KernelIdeal.main_c_465)) (Φ₂ (Proc.devRef .tc Cert.ReferenceIdeal.main_c_465)) := step0 (β := ((⟨Cert.KernelIdeal.S_, .i32⟩ : BufTy).Contents (Elt F))) (eq0 (at_ fa8 (i := 21) rfl) :) (eq0 (at_ fb1 (i := 52) rfl) :)
  have e97 : @Eq ((⟨Cert.KernelIdeal.S131072, .i32⟩ : BufTy).Contents (Elt F)) (Φ₁ (Proc.devRef .tc Cert.KernelIdeal.main_v1481)) (Φ₂ (Proc.devRef .tc Cert.ReferenceIdeal.main_v1490)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 53) rfl) :) e96
  have e98 : @Eq ((⟨Cert.KernelIdeal.S131072, .i32⟩ : BufTy).Contents (Elt F)) (Φ₁ (Proc.devRef .tc Cert.KernelIdeal.main_v1482)) (Φ₂ (Proc.devRef .tc Cert.ReferenceIdeal.main_v1491)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 54) rfl) :) e63 e97
  have e99 : @Eq ((⟨Cert.KernelIdeal.S131072, .i32⟩ : BufTy).Contents (Elt F)) (Φ₁ (Proc.devRef .tc Cert.KernelIdeal.main_v1483)) (Φ₂ (Proc.devRef .tc Cert.ReferenceIdeal.main_v1492)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 55) rfl) :) e95 e98 e63
  have e100 : @Eq ((⟨Cert.KernelIdeal.S_, .i32⟩ : BufTy).Contents (Elt F)) (Φ₁ (Proc.devRef .tc Cert.KernelIdeal.main_c_466)) (Φ₂ (Proc.devRef .tc Cert.ReferenceIdeal.main_c_466)) := step0 (β := ((⟨Cert.KernelIdeal.S_, .i32⟩ : BufTy).Contents (Elt F))) (eq0 (at_ fa8 (i := 25) rfl) :) (eq0 (at_ fb1 (i := 56) rfl) :)
  have e101 : @Eq ((⟨Cert.KernelIdeal.S131072, .i32⟩ : BufTy).Contents (Elt F)) (Φ₁ (Proc.devRef .tc Cert.KernelIdeal.main_v1484)) (Φ₂ (Proc.devRef .tc Cert.ReferenceIdeal.main_v1493)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 57) rfl) :) e100
  have e102 : @Eq ((⟨Cert.KernelIdeal.S131072, .i1⟩ : BufTy).Contents (Elt F)) (Φ₁ (Proc.devRef .tc Cert.KernelIdeal.main_v1485)) (Φ₂ (Proc.devRef .tc Cert.ReferenceIdeal.main_v1494)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 58) rfl) :) e54 e101
  have e103 : @Eq ((⟨Cert.KernelIdeal.S_, .i32⟩ : BufTy).Contents (Elt F)) (Φ₁ (Proc.devRef .tc Cert.KernelIdeal.main_c_467)) (Φ₂ (Proc.devRef .tc Cert.ReferenceIdeal.main_c_467)) := step0 (β := ((⟨Cert.KernelIdeal.S_, .i32⟩ : BufTy).Contents (Elt F))) (eq0 (at_ fa8 (i := 28) rfl) :) (eq0 (at_ fb1 (i := 59) rfl) :)
  have e104 : @Eq ((⟨Cert.KernelIdeal.S131072, .i32⟩ : BufTy).Contents (Elt F)) (Φ₁ (Proc.devRef .tc Cert.KernelIdeal.main_v1486)) (Φ₂ (Proc.devRef .tc Cert.ReferenceIdeal.main_v1495)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 60) rfl) :) e103
  have e105 : @Eq ((⟨Cert.KernelIdeal.S131072, .i32⟩ : BufTy).Contents (Elt F)) (Φ₁ (Proc.devRef .tc Cert.KernelIdeal.main_v1487)) (Φ₂ (Proc.devRef .tc Cert.ReferenceIdeal.main_v1496)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 61) rfl) :) e54 e104
  have e106 : @Eq ((⟨Cert.KernelIdeal.S131072, .i32⟩ : BufTy).Contents (Elt F)) (Φ₁ (Proc.devRef .tc Cert.KernelIdeal.main_v1488)) (Φ₂ (Proc.devRef .tc Cert.ReferenceIdeal.main_v1497)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 62) rfl) :) e102 e105 e54
  have e107 : @Eq ((⟨Cert.KernelIdeal.S131072x1, .i32⟩ : BufTy).Contents (Elt F)) (Φ₁ (Proc.devRef .tc Cert.KernelIdeal.main_v1489)) (Φ₂ (Proc.devRef .tc Cert.ReferenceIdeal.main_v1498)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 63) rfl) :) e99
  have e108 : @Eq ((⟨Cert.KernelIdeal.S131072x1, .i32⟩ : BufTy).Contents (Elt F)) (Φ₁ (Proc.devRef .tc Cert.KernelIdeal.main_v1490)) (Φ₂ (Proc.devRef .tc Cert.ReferenceIdeal.main_v1499)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 64) rfl) :) e106
  have e109 : @Eq ((⟨Cert.KernelIdeal.S131072x2, .i32⟩ : BufTy).Contents (Elt F)) (Φ₁ (Proc.devRef .tc Cert.KernelIdeal.main_v1491)) (Φ₂ (Proc.devRef .tc Cert.ReferenceIdeal.main_v1500)) := by rw [eq2 (at_ fa8 (i := 34) rfl), eq2 (at_ fb1 (i := 65) rfl), e107, e108] <;> rfl
  have e110 : @Eq ((⟨Cert.KernelIdeal.S32x131072, .f32⟩ : BufTy).Contents (Elt F)) (Φ₁ (Proc.devRef .tc Cert.KernelIdeal.main_v1492)) (Φ₂ (Proc.devRef .tc Cert.ReferenceIdeal.main_v1501)) := by rw [eq2 (at_ fa8 (i := 35) rfl), eq2 (at_ fb1 (i := 66) rfl), x2, e109] <;> rfl
  have e111 : @Eq ((⟨Cert.KernelIdeal.S_, .i32⟩ : BufTy).Contents (Elt F)) (Φ₁ (Proc.devRef .tc Cert.KernelIdeal.main_c_468)) (Φ₂ (Proc.devRef .tc Cert.ReferenceIdeal.main_c_468)) := step0 (β := ((⟨Cert.KernelIdeal.S_, .i32⟩ : BufTy).Contents (Elt F))) (eq0 (at_ fa8 (i := 36) rfl) :) (eq0 (at_ fb1 (i := 67) rfl) :)
  have e112 : @Eq ((⟨Cert.KernelIdeal.S131072, .i32⟩ : BufTy).Contents (Elt F)) (Φ₁ (Proc.devRef .tc Cert.KernelIdeal.main_v1493)) (Φ₂ (Proc.devRef .tc Cert.ReferenceIdeal.main_v1502)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 68) rfl) :) e111
  have e113 : @Eq ((⟨Cert.KernelIdeal.S131072, .i1⟩ : BufTy).Contents (Elt F)) (Φ₁ (Proc.devRef .tc Cert.KernelIdeal.main_v1494)) (Φ₂ (Proc.devRef .tc Cert.ReferenceIdeal.main_v1503)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 69) rfl) :) e74 e112
  have e114 : @Eq ((⟨Cert.KernelIdeal.S_, .i32⟩ : BufTy).Contents (Elt F)) (Φ₁ (Proc.devRef .tc Cert.KernelIdeal.main_c_469)) (Φ₂ (Proc.devRef .tc Cert.ReferenceIdeal.main_c_469)) := step0 (β := ((⟨Cert.KernelIdeal.S_, .i32⟩ : BufTy).Contents (Elt F))) (eq0 (at_ fa8 (i := 39) rfl) :) (eq0 (at_ fb1 (i := 70) rfl) :)
  have e115 : @Eq ((⟨Cert.KernelIdeal.S131072, .i32⟩ : BufTy).Contents (Elt F)) (Φ₁ (Proc.devRef .tc Cert.KernelIdeal.main_v1495)) (Φ₂ (Proc.devRef .tc Cert.ReferenceIdeal.main_v1504)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 71) rfl) :) e114
  have e116 : @Eq ((⟨Cert.KernelIdeal.S131072, .i32⟩ : BufTy).Contents (Elt F)) (Φ₁ (Proc.devRef .tc Cert.KernelIdeal.main_v1496)) (Φ₂ (Proc.devRef .tc Cert.ReferenceIdeal.main_v1505)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 72) rfl) :) e74 e115
  have e117 : @Eq ((⟨Cert.KernelIdeal.S131072, .i32⟩ : BufTy).Contents (Elt F)) (Φ₁ (Proc.devRef .tc Cert.KernelIdeal.main_v1497)) (Φ₂ (Proc.devRef .tc Cert.ReferenceIdeal.main_v1506)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 73) rfl) :) e113 e116 e74
  have e118 : @Eq ((⟨Cert.KernelIdeal.S_, .i32⟩ : BufTy).Contents (Elt F)) (Φ₁ (Proc.devRef .tc Cert.KernelIdeal.main_c_470)) (Φ₂ (Proc.devRef .tc Cert.ReferenceIdeal.main_c_470)) := step0 (β := ((⟨Cert.KernelIdeal.S_, .i32⟩ : BufTy).Contents (Elt F))) (eq0 (at_ fa8 (i := 43) rfl) :) (eq0 (at_ fb1 (i := 74) rfl) :)
  have e119 : @Eq ((⟨Cert.KernelIdeal.S131072, .i32⟩ : BufTy).Contents (Elt F)) (Φ₁ (Proc.devRef .tc Cert.KernelIdeal.main_v1498)) (Φ₂ (Proc.devRef .tc Cert.ReferenceIdeal.main_v1507)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 0) rfl) :) e118
  have e120 : @Eq ((⟨Cert.KernelIdeal.S131072, .i1⟩ : BufTy).Contents (Elt F)) (Φ₁ (Proc.devRef .tc Cert.KernelIdeal.main_v1499)) (Φ₂ (Proc.devRef .tc Cert.ReferenceIdeal.main_v1508)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 1) rfl) :) e43 e119
  have e121 : @Eq ((⟨Cert.KernelIdeal.S_, .i32⟩ : BufTy).Contents (Elt F)) (Φ₁ (Proc.devRef .tc Cert.KernelIdeal.main_c_471)) (Φ₂ (Proc.devRef .tc Cert.ReferenceIdeal.main_c_471)) := step0 (β := ((⟨Cert.KernelIdeal.S_, .i32⟩ : BufTy).Contents (Elt F))) (eq0 (at_ fa8 (i := 46) rfl) :) (eq0 (at_ fb2 (i := 2) rfl) :)
  have e122 : @Eq ((⟨Cert.KernelIdeal.S131072, .i32⟩ : BufTy).Contents (Elt F)) (Φ₁ (Proc.devRef .tc Cert.KernelIdeal.main_v1500)) (Φ₂ (Proc.devRef .tc Cert.ReferenceIdeal.main_v1509)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 3) rfl) :) e121
  have e123 : @Eq ((⟨Cert.KernelIdeal.S131072, .i32⟩ : BufTy).Contents (Elt F)) (Φ₁ (Proc.devRef .tc Cert.KernelIdeal.main_v1501)) (Φ₂ (Proc.devRef .tc Cert.ReferenceIdeal.main_v1510)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 4) rfl) :) e43 e122
  have e124 : @Eq ((⟨Cert.KernelIdeal.S131072, .i32⟩ : BufTy).Contents (Elt F)) (Φ₁ (Proc.devRef .tc Cert.KernelIdeal.main_v1502)) (Φ₂ (Proc.devRef .tc Cert.ReferenceIdeal.main_v1511)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 5) rfl) :) e120 e123 e43
  have e125 : @Eq ((⟨Cert.KernelIdeal.S131072x1, .i32⟩ : BufTy).Contents (Elt F)) (Φ₁ (Proc.devRef .tc Cert.KernelIdeal.main_v1503)) (Φ₂ (Proc.devRef .tc Cert.ReferenceIdeal.main_v1512)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 6) rfl) :) e117
  have e126 : @Eq ((⟨Cert.KernelIdeal.S131072x1, .i32⟩ : BufTy).Contents (Elt F)) (Φ₁ (Proc.devRef .tc Cert.KernelIdeal.main_v1504)) (Φ₂ (Proc.devRef .tc Cert.ReferenceIdeal.main_v1513)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 7) rfl) :) e124
  have e127 : @Eq ((⟨Cert.KernelIdeal.S131072x2, .i32⟩ : BufTy).Contents (Elt F)) (Φ₁ (Proc.devRef .tc Cert.KernelIdeal.main_v1505)) (Φ₂ (Proc.devRef .tc Cert.ReferenceIdeal.main_v1514)) := by rw [eq2 (at_ fa8 (i := 52) rfl), eq2 (at_ fb2 (i := 8) rfl), e125, e126] <;> rfl
  have e128 : @Eq ((⟨Cert.KernelIdeal.S32x131072, .f32⟩ : BufTy).Contents (Elt F)) (Φ₁ (Proc.devRef .tc Cert.KernelIdeal.main_v1506)) (Φ₂ (Proc.devRef .tc Cert.ReferenceIdeal.main_v1515)) := by rw [eq2 (at_ fa8 (i := 53) rfl), eq2 (at_ fb2 (i := 9) rfl), x2, e127] <;> rfl
  have e129 : @Eq ((⟨Cert.KernelIdeal.S_, .i32⟩ : BufTy).Contents (Elt F)) (Φ₁ (Proc.devRef .tc Cert.KernelIdeal.main_c_472)) (Φ₂ (Proc.devRef .tc Cert.ReferenceIdeal.main_c_472)) := step0 (β := ((⟨Cert.KernelIdeal.S_, .i32⟩ : BufTy).Contents (Elt F))) (eq0 (at_ fa8 (i := 54) rfl) :) (eq0 (at_ fb2 (i := 10) rfl) :)
  have e130 : @Eq ((⟨Cert.KernelIdeal.S131072, .i32⟩ : BufTy).Contents (Elt F)) (Φ₁ (Proc.devRef .tc Cert.KernelIdeal.main_v1507)) (Φ₂ (Proc.devRef .tc Cert.ReferenceIdeal.main_v1516)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 11) rfl) :) e129
  have e131 : @Eq ((⟨Cert.KernelIdeal.S131072, .i1⟩ : BufTy).Contents (Elt F)) (Φ₁ (Proc.devRef .tc Cert.KernelIdeal.main_v1508)) (Φ₂ (Proc.devRef .tc Cert.ReferenceIdeal.main_v1517)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 12) rfl) :) e74 e130
  have e132 : @Eq ((⟨Cert.KernelIdeal.S_, .i32⟩ : BufTy).Contents (Elt F)) (Φ₁ (Proc.devRef .tc Cert.KernelIdeal.main_c_473)) (Φ₂ (Proc.devRef .tc Cert.ReferenceIdeal.main_c_473)) := step0 (β := ((⟨Cert.KernelIdeal.S_, .i32⟩ : BufTy).Contents (Elt F))) (eq0 (at_ fa8 (i := 57) rfl) :) (eq0 (at_ fb2 (i := 13) rfl) :)
  have e133 : @Eq ((⟨Cert.KernelIdeal.S131072, .i32⟩ : BufTy).Contents (Elt F)) (Φ₁ (Proc.devRef .tc Cert.KernelIdeal.main_v1509)) (Φ₂ (Proc.devRef .tc Cert.ReferenceIdeal.main_v1518)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 14) rfl) :) e132
  have e134 : @Eq ((⟨Cert.KernelIdeal.S131072, .i32⟩ : BufTy).Contents (Elt F)) (Φ₁ (Proc.devRef .tc Cert.KernelIdeal.main_v1510)) (Φ₂ (Proc.devRef .tc Cert.ReferenceIdeal.main_v1519)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 15) rfl) :) e74 e133
  have e135 : @Eq ((⟨Cert.KernelIdeal.S131072, .i32⟩ : BufTy).Contents (Elt F)) (Φ₁ (Proc.devRef .tc Cert.KernelIdeal.main_v1511)) (Φ₂ (Proc.devRef .tc Cert.ReferenceIdeal.main_v1520)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 16) rfl) :) e131 e134 e74
  have e136 : @Eq ((⟨Cert.KernelIdeal.S_, .i32⟩ : BufTy).Contents (Elt F)) (Φ₁ (Proc.devRef .tc Cert.KernelIdeal.main_c_474)) (Φ₂ (Proc.devRef .tc Cert.ReferenceIdeal.main_c_474)) := step0 (β := ((⟨Cert.KernelIdeal.S_, .i32⟩ : BufTy).Contents (Elt F))) (eq0 (at_ fa8 (i := 61) rfl) :) (eq0 (at_ fb2 (i := 17) rfl) :)
  have e137 : @Eq ((⟨Cert.KernelIdeal.S131072, .i32⟩ : BufTy).Contents (Elt F)) (Φ₁ (Proc.devRef .tc Cert.KernelIdeal.main_v1512)) (Φ₂ (Proc.devRef .tc Cert.ReferenceIdeal.main_v1521)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 18) rfl) :) e136
  have e138 : @Eq ((⟨Cert.KernelIdeal.S131072, .i1⟩ : BufTy).Contents (Elt F)) (Φ₁ (Proc.devRef .tc Cert.KernelIdeal.main_v1513)) (Φ₂ (Proc.devRef .tc Cert.ReferenceIdeal.main_v1522)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 19) rfl) :) e54 e137
  have e139 : @Eq ((⟨Cert.KernelIdeal.S_, .i32⟩ : BufTy).Contents (Elt F)) (Φ₁ (Proc.devRef .tc Cert.KernelIdeal.main_c_475)) (Φ₂ (Proc.devRef .tc Cert.ReferenceIdeal.main_c_475)) := step0 (β := ((⟨Cert.KernelIdeal.S_, .i32⟩ : BufTy).Contents (Elt F))) (eq0 (at_ fa8 (i := 64) rfl) :) (eq0 (at_ fb2 (i := 20) rfl) :)
  have e140 : @Eq ((⟨Cert.KernelIdeal.S131072, .i32⟩ : BufTy).Contents (Elt F)) (Φ₁ (Proc.devRef .tc Cert.KernelIdeal.main_v1514)) (Φ₂ (Proc.devRef .tc Cert.ReferenceIdeal.main_v1523)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 21) rfl) :) e139
  have e141 : @Eq ((⟨Cert.KernelIdeal.S131072, .i32⟩ : BufTy).Contents (Elt F)) (Φ₁ (Proc.devRef .tc Cert.KernelIdeal.main_v1515)) (Φ₂ (Proc.devRef .tc Cert.ReferenceIdeal.main_v1524)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 22) rfl) :) e54 e140
  have e142 : @Eq ((⟨Cert.KernelIdeal.S131072, .i32⟩ : BufTy).Contents (Elt F)) (Φ₁ (Proc.devRef .tc Cert.KernelIdeal.main_v1516)) (Φ₂ (Proc.devRef .tc Cert.ReferenceIdeal.main_v1525)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 23) rfl) :) e138 e141 e54
  have e143 : @Eq ((⟨Cert.KernelIdeal.S131072x1, .i32⟩ : BufTy).Contents (Elt F)) (Φ₁ (Proc.devRef .tc Cert.KernelIdeal.main_v1517)) (Φ₂ (Proc.devRef .tc Cert.ReferenceIdeal.main_v1526)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 24) rfl) :) e135
  have e144 : @Eq ((⟨Cert.KernelIdeal.S131072x1, .i32⟩ : BufTy).Contents (Elt F)) (Φ₁ (Proc.devRef .tc Cert.KernelIdeal.main_v1518)) (Φ₂ (Proc.devRef .tc Cert.ReferenceIdeal.main_v1527)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 25) rfl) :) e142
  have e145 : @Eq ((⟨Cert.KernelIdeal.S131072x2, .i32⟩ : BufTy).Contents (Elt F)) (Φ₁ (Proc.devRef .tc Cert.KernelIdeal.main_v1519)) (Φ₂ (Proc.devRef .tc Cert.ReferenceIdeal.main_v1528)) := by rw [eq2 (at_ fa8 (i := 70) rfl), eq2 (at_ fb2 (i := 26) rfl), e143, e144] <;> rfl
  have e146 : @Eq ((⟨Cert.KernelIdeal.S32x131072, .f32⟩ : BufTy).Contents (Elt F)) (Φ₁ (Proc.devRef .tc Cert.KernelIdeal.main_v1520)) (Φ₂ (Proc.devRef .tc Cert.ReferenceIdeal.main_v1529)) := by rw [eq2 (at_ fa8 (i := 71) rfl), eq2 (at_ fb2 (i := 27) rfl), x2, e145] <;> rfl
  have e147 : @Eq ((⟨Cert.KernelIdeal.S_, .f32⟩ : BufTy).Contents (Elt F)) (Φ₁ (Proc.devRef .tc Cert.KernelIdeal.main_cst_476)) (Φ₂ (Proc.devRef .tc Cert.ReferenceIdeal.main_cst_476)) := step0 (β := ((⟨Cert.KernelIdeal.S_, .f32⟩ : BufTy).Contents (Elt F))) (eq0 (at_ fa8 (i := 72) rfl) :) (eq0 (at_ fb2 (i := 28) rfl) :)
  have e148 : @Eq ((⟨Cert.KernelIdeal.S131072, .f32⟩ : BufTy).Contents (Elt F)) (Φ₁ (Proc.devRef .tc Cert.KernelIdeal.main_v1521)) (Φ₂ (Proc.devRef .tc Cert.ReferenceIdeal.main_v1530)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 29) rfl) :) e147
  have e149 : @Eq ((⟨Cert.KernelIdeal.S131072, .f32⟩ : BufTy).Contents (Elt F)) (Φ₁ (Proc.devRef .tc Cert.KernelIdeal.main_v1522)) (Φ₂ (Proc.devRef .tc Cert.ReferenceIdeal.main_v1531)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 30) rfl) :) e148 e33
  have e150 : @Eq ((⟨Cert.KernelIdeal.S1x131072, .f32⟩ : BufTy).Contents (Elt F)) (Φ₁ (Proc.devRef .tc Cert.KernelIdeal.main_v1523)) (Φ₂ (Proc.devRef .tc Cert.ReferenceIdeal.main_v1532)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 31) rfl) :) e149
  have e151 : @Eq ((⟨Cert.KernelIdeal.S32x131072, .f32⟩ : BufTy).Contents (Elt F)) (Φ₁ (Proc.devRef .tc Cert.KernelIdeal.main_v1524)) (Φ₂ (Proc.devRef .tc Cert.ReferenceIdeal.main_v1533)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 32) rfl) :) e150
  have e152 : @Eq ((⟨Cert.KernelIdeal.S32x131072, .f32⟩ : BufTy).Contents (Elt F)) (Φ₁ (Proc.devRef .tc Cert.KernelIdeal.main_v1525)) (Φ₂ (Proc.devRef .tc Cert.ReferenceIdeal.main_v1534)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 33) rfl) :) e92 e151
  have e153 : @Eq ((⟨Cert.KernelIdeal.S_, .f32⟩ : BufTy).Contents (Elt F)) (Φ₁ (Proc.devRef .tc Cert.KernelIdeal.main_cst_477)) (Φ₂ (Proc.devRef .tc Cert.ReferenceIdeal.main_cst_477)) := step0 (β := ((⟨Cert.KernelIdeal.S_, .f32⟩ : BufTy).Contents (Elt F))) (eq0 (at_ fa8 (i := 78) rfl) :) (eq0 (at_ fb2 (i := 34) rfl) :)
  have e154 : @Eq ((⟨Cert.KernelIdeal.S131072, .f32⟩ : BufTy).Contents (Elt F)) (Φ₁ (Proc.devRef .tc Cert.KernelIdeal.main_v1526)) (Φ₂ (Proc.devRef .tc Cert.ReferenceIdeal.main_v1535)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 35) rfl) :) e153
  have e155 : @Eq ((⟨Cert.KernelIdeal.S131072, .f32⟩ : BufTy).Contents (Elt F)) (Φ₁ (Proc.devRef .tc Cert.KernelIdeal.main_v1527)) (Φ₂ (Proc.devRef .tc Cert.ReferenceIdeal.main_v1536)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 36) rfl) :) e154 e34
  have e156 : @Eq ((⟨Cert.KernelIdeal.S1x131072, .f32⟩ : BufTy).Contents (Elt F)) (Φ₁ (Proc.devRef .tc Cert.KernelIdeal.main_v1528)) (Φ₂ (Proc.devRef .tc Cert.ReferenceIdeal.main_v1537)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 37) rfl) :) e155
  have e157 : @Eq ((⟨Cert.KernelIdeal.S32x131072, .f32⟩ : BufTy).Contents (Elt F)) (Φ₁ (Proc.devRef .tc Cert.KernelIdeal.main_v1529)) (Φ₂ (Proc.devRef .tc Cert.ReferenceIdeal.main_v1538)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 38) rfl) :) e156
  have e158 : @Eq ((⟨Cert.KernelIdeal.S32x131072, .f32⟩ : BufTy).Contents (Elt F)) (Φ₁ (Proc.devRef .tc Cert.KernelIdeal.main_v1530)) (Φ₂ (Proc.devRef .tc Cert.ReferenceIdeal.main_v1539)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 39) rfl) :) e152 e157
  have e159 : @Eq ((⟨Cert.KernelIdeal.S1x131072, .f32⟩ : BufTy).Contents (Elt F)) (Φ₁ (Proc.devRef .tc Cert.KernelIdeal.main_v1531)) (Φ₂ (Proc.devRef .tc Cert.ReferenceIdeal.main_v1540)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 40) rfl) :) e33
  have e160 : @Eq ((⟨Cert.KernelIdeal.S32x131072, .f32⟩ : BufTy).Contents (Elt F)) (Φ₁ (Proc.devRef .tc Cert.KernelIdeal.main_v1532)) (Φ₂ (Proc.devRef .tc Cert.ReferenceIdeal.main_v1541)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 41) rfl) :) e159
  have e161 : @Eq ((⟨Cert.KernelIdeal.S32x131072, .f32⟩ : BufTy).Contents (Elt F)) (Φ₁ (Proc.devRef .tc Cert.KernelIdeal.main_v1533)) (Φ₂ (Proc.devRef .tc Cert.ReferenceIdeal.main_v1542)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 42) rfl) :) e110 e160
  have e162 : @Eq ((⟨Cert.KernelIdeal.S_, .f32⟩ : BufTy).Contents (Elt F)) (Φ₁ (Proc.devRef .tc Cert.KernelIdeal.main_cst_478)) (Φ₂ (Proc.devRef .tc Cert.ReferenceIdeal.main_cst_478)) := step0 (β := ((⟨Cert.KernelIdeal.S_, .f32⟩ : BufTy).Contents (Elt F))) (eq0 (at_ fa8 (i := 87) rfl) :) (eq0 (at_ fb2 (i := 43) rfl) :)
  have e163 : @Eq ((⟨Cert.KernelIdeal.S131072, .f32⟩ : BufTy).Contents (Elt F)) (Φ₁ (Proc.devRef .tc Cert.KernelIdeal.main_v1534)) (Φ₂ (Proc.devRef .tc Cert.ReferenceIdeal.main_v1543)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 44) rfl) :) e162
  have e164 : @Eq ((⟨Cert.KernelIdeal.S131072, .f32⟩ : BufTy).Contents (Elt F)) (Φ₁ (Proc.devRef .tc Cert.KernelIdeal.main_v1535)) (Φ₂ (Proc.devRef .tc Cert.ReferenceIdeal.main_v1544)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 45) rfl) :) e163 e34
  have e165 : @Eq ((⟨Cert.KernelIdeal.S1x131072, .f32⟩ : BufTy).Contents (Elt F)) (Φ₁ (Proc.devRef .tc Cert.KernelIdeal.main_v1536)) (Φ₂ (Proc.devRef .tc Cert.ReferenceIdeal.main_v1545)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 46) rfl) :) e164
  have e166 : @Eq ((⟨Cert.KernelIdeal.S32x131072, .f32⟩ : BufTy).Contents (Elt F)) (Φ₁ (Proc.devRef .tc Cert.KernelIdeal.main_v1537)) (Φ₂ (Proc.devRef .tc Cert.ReferenceIdeal.main_v1546)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 47) rfl) :) e165
  have e167 : @Eq ((⟨Cert.KernelIdeal.S32x131072, .f32⟩ : BufTy).Contents (Elt F)) (Φ₁ (Proc.devRef .tc Cert.KernelIdeal.main_v1538)) (Φ₂ (Proc.devRef .tc Cert.ReferenceIdeal.main_v1547)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 48) rfl) :) e161 e166
  have e168 : @Eq ((⟨Cert.KernelIdeal.S32x131072, .f32⟩ : BufTy).Contents (Elt F)) (Φ₁ (Proc.devRef .tc Cert.KernelIdeal.main_v1539)) (Φ₂ (Proc.devRef .tc Cert.ReferenceIdeal.main_v1548)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 49) rfl) :) e158 e167
  have e169 : @Eq ((⟨Cert.KernelIdeal.S_, .f32⟩ : BufTy).Contents (Elt F)) (Φ₁ (Proc.devRef .tc Cert.KernelIdeal.main_cst_479)) (Φ₂ (Proc.devRef .tc Cert.ReferenceIdeal.main_cst_479)) := step0 (β := ((⟨Cert.KernelIdeal.S_, .f32⟩ : BufTy).Contents (Elt F))) (eq0 (at_ fa8 (i := 94) rfl) :) (eq0 (at_ fb2 (i := 50) rfl) :)
  have e170 : @Eq ((⟨Cert.KernelIdeal.S131072, .f32⟩ : BufTy).Contents (Elt F)) (Φ₁ (Proc.devRef .tc Cert.KernelIdeal.main_v1540)) (Φ₂ (Proc.devRef .tc Cert.ReferenceIdeal.main_v1549)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 51) rfl) :) e169
  have e171 : @Eq ((⟨Cert.KernelIdeal.S131072, .f32⟩ : BufTy).Contents (Elt F)) (Φ₁ (Proc.devRef .tc Cert.KernelIdeal.main_v1541)) (Φ₂ (Proc.devRef .tc Cert.ReferenceIdeal.main_v1550)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 52) rfl) :) e170 e33
  have e172 : @Eq ((⟨Cert.KernelIdeal.S1x131072, .f32⟩ : BufTy).Contents (Elt F)) (Φ₁ (Proc.devRef .tc Cert.KernelIdeal.main_v1542)) (Φ₂ (Proc.devRef .tc Cert.ReferenceIdeal.main_v1551)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 53) rfl) :) e171
  have e173 : @Eq ((⟨Cert.KernelIdeal.S32x131072, .f32⟩ : BufTy).Contents (Elt F)) (Φ₁ (Proc.devRef .tc Cert.KernelIdeal.main_v1543)) (Φ₂ (Proc.devRef .tc Cert.ReferenceIdeal.main_v1552)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 54) rfl) :) e172
  have e174 : @Eq ((⟨Cert.KernelIdeal.S32x131072, .f32⟩ : BufTy).Contents (Elt F)) (Φ₁ (Proc.devRef .tc Cert.KernelIdeal.main_v1544)) (Φ₂ (Proc.devRef .tc Cert.ReferenceIdeal.main_v1553)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 55) rfl) :) e128 e173
  have e175 : @Eq ((⟨Cert.KernelIdeal.S1x131072, .f32⟩ : BufTy).Contents (Elt F)) (Φ₁ (Proc.devRef .tc Cert.KernelIdeal.main_v1545)) (Φ₂ (Proc.devRef .tc Cert.ReferenceIdeal.main_v1554)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 56) rfl) :) e34
  have e176 : @Eq ((⟨Cert.KernelIdeal.S32x131072, .f32⟩ : BufTy).Contents (Elt F)) (Φ₁ (Proc.devRef .tc Cert.KernelIdeal.main_v1546)) (Φ₂ (Proc.devRef .tc Cert.ReferenceIdeal.main_v1555)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 57) rfl) :) e175
  have e177 : @Eq ((⟨Cert.KernelIdeal.S32x131072, .f32⟩ : BufTy).Contents (Elt F)) (Φ₁ (Proc.devRef .tc Cert.KernelIdeal.main_v1547)) (Φ₂ (Proc.devRef .tc Cert.ReferenceIdeal.main_v1556)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 58) rfl) :) e174 e176
  have e178 : @Eq ((⟨Cert.KernelIdeal.S32x131072, .f32⟩ : BufTy).Contents (Elt F)) (Φ₁ (Proc.devRef .tc Cert.KernelIdeal.main_v1548)) (Φ₂ (Proc.devRef .tc Cert.ReferenceIdeal.main_v1557)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 59) rfl) :) e168 e177
  have e179 : @Eq ((⟨Cert.KernelIdeal.S1x131072, .f32⟩ : BufTy).Contents (Elt F)) (Φ₁ (Proc.devRef .tc Cert.KernelIdeal.main_v1549)) (Φ₂ (Proc.devRef .tc Cert.ReferenceIdeal.main_v1558)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 0) rfl) :) e33
  have e180 : @Eq ((⟨Cert.KernelIdeal.S32x131072, .f32⟩ : BufTy).Contents (Elt F)) (Φ₁ (Proc.devRef .tc Cert.KernelIdeal.main_v1550)) (Φ₂ (Proc.devRef .tc Cert.ReferenceIdeal.main_v1559)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 1) rfl) :) e179
  have e181 : @Eq ((⟨Cert.KernelIdeal.S32x131072, .f32⟩ : BufTy).Contents (Elt F)) (Φ₁ (Proc.devRef .tc Cert.KernelIdeal.main_v1551)) (Φ₂ (Proc.devRef .tc Cert.ReferenceIdeal.main_v1560)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 2) rfl) :) e146 e180
  have e182 : @Eq ((⟨Cert.KernelIdeal.S1x131072, .f32⟩ : BufTy).Contents (Elt F)) (Φ₁ (Proc.devRef .tc Cert.KernelIdeal.main_v1552)) (Φ₂ (Proc.devRef .tc Cert.ReferenceIdeal.main_v1561)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 3) rfl) :) e34
  have e183 : @Eq ((⟨Cert.KernelIdeal.S32x131072, .f32⟩ : BufTy).Contents (Elt F)) (Φ₁ (Proc.devRef .tc Cert.KernelIdeal.main_v1553)) (Φ₂ (Proc.devRef .tc Cert.ReferenceIdeal.main_v1562)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 4) rfl) :) e182
  have e184 : @Eq ((⟨Cert.KernelIdeal.S32x131072, .f32⟩ : BufTy).Contents (Elt F)) (Φ₁ (Proc.devRef .tc Cert.KernelIdeal.main_v1554)) (Φ₂ (Proc.devRef .tc Cert.ReferenceIdeal.main_v1563)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 5) rfl) :) e181 e183
  have e185 : @Eq ((⟨Cert.KernelIdeal.S32x131072, .f32⟩ : BufTy).Contents (Elt F)) (Φ₁ (Proc.devRef .tc Cert.KernelIdeal.main_v1555)) (Φ₂ (Proc.devRef .tc Cert.ReferenceIdeal.main_v1564)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 6) rfl) :) e178 e184
  have e186 : @Eq ((⟨Cert.KernelIdeal.S131072x32, .f32⟩ : BufTy).Contents (Elt F)) (Φ₁ (Proc.devRef .tc Cert.KernelIdeal.main_v1556)) (Φ₂ (Proc.devRef .tc Cert.ReferenceIdeal.main_v1565)) := by rw [eq1 (at_ fa8 (i := 111) rfl), eq1 (at_ fb3 (i := 7) rfl), e185] <;> rfl
  exact e186

end Cert.Bridge

end
-- ==== Proof.SimB12.lean ====
/- Operations 2279 … 2465 of the one program and 2289 … 2475 of the other apply the same functions to corresponding
   buffers. If both programs' final contents satisfy their own lines' equations and agree on the buffers these operations
   read from outside, they agree on what these operations write: one congruence per operation, in program order. -/
import proofs.«133805_j10187662426200_2_alg».proof.Proof.KIStretch2
import proofs.«133805_j10187662426200_2_alg».proof.Proof.RefOps4
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B12 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_96 : List (HloOp Cert.KernelIdeal.τ Cert.KernelIdeal.sig (Elt F))).Forall fun op => ∀ b ∈ op.writes, Φ₁ b = op.result Φ₁ b)
    (fa1 : (Cert.KernelIdeal.Gen.hostOps0_97 : List (HloOp Cert.KernelIdeal.τ Cert.KernelIdeal.sig (Elt F))).Forall fun op => ∀ b ∈ op.writes, Φ₁ b = op.result Φ₁ b)
    (fa2 : (Cert.KernelIdeal.Gen.hostOps0_98 : List (HloOp Cert.KernelIdeal.τ Cert.KernelIdeal.sig (Elt F))).Forall fun op => ∀ b ∈ op.writes, Φ₁ b = op.result Φ₁ b)
    (fa3 : (Cert.KernelIdeal.Gen.hostOps0_99 : List (HloOp Cert.KernelIdeal.τ Cert.KernelIdeal.sig (Elt F))).Forall fun op => ∀ b ∈ op.writes, Φ₁ b = op.result Φ₁ b)
    (fa4 : (Cert.KernelIdeal.Gen.hostOps0_100 : List (HloOp Cert.KernelIdeal.τ Cert.KernelIdeal.sig (Elt F))).Forall fun op => ∀ b ∈ op.writes, Φ₁ b = op.result Φ₁ b)
    (fa5 : (Cert.KernelIdeal.Gen.hostOps0_101 : List (HloOp Cert.KernelIdeal.τ Cert.KernelIdeal.sig (Elt F))).Forall fun op => ∀ b ∈ op.writes, Φ₁ b = op.result Φ₁ b)
    (fa6 : (Cert.KernelIdeal.Gen.hostOps0_102 : List (HloOp Cert.KernelIdeal.τ Cert.KernelIdeal.sig (Elt F))).Forall fun op => ∀ b ∈ op.writes, Φ₁ b = op.result Φ₁ b)
    (fa7 : (Cert.KernelIdeal.Gen.hostOps0_103 : List (HloOp Cert.KernelIdeal.τ Cert.KernelIdeal.sig (Elt F))).Forall fun op => ∀ b ∈ op.writes, Φ₁ b = op.result Φ₁ b)
    (fa8 : (Cert.KernelIdeal.Gen.hostOps0_104 : List (HloOp Cert.KernelIdeal.τ Cert.KernelIdeal.sig (Elt F))).Forall fun op => ∀ b ∈ op.writes, Φ₁ b = op.result Φ₁ b)
    (fb0 : (Cert.ReferenceIdeal.Ops.w34 : List (HloOp Cert.ReferenceIdeal.τ Cert.ReferenceIdeal.sig (Elt F))).Forall fun op => ∀ b ∈ op.writes, Φ₂ b = op.result Φ₂ b)
    (fb1 : (Cert.ReferenceIdeal.Ops.w35 : List (HloOp Cert.ReferenceIdeal.τ Cert.ReferenceIdeal.sig (Elt F))).Forall fun op => ∀ b ∈ op.writes, Φ₂ b = op.result Φ₂ b)
    (fb2 : (Cert.ReferenceIdeal.Ops.w36 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_11)) (Φ₂ (Proc.devRef .tc Cert.ReferenceIdeal.main_c_11)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x256x256, .f32⟩ : BufTy).Contents (Elt F)) (Φ₁ (Proc.devRef .tc Cert.KernelIdeal.main_arg14)) (Φ₂ (Proc.devRef .tc Cert.ReferenceIdeal.main_arg14)))
    : @Eq ((⟨Cert.KernelIdeal.S131072x32, .f32⟩ : BufTy).Contents (Elt F)) (Φ₁ (Proc.devRef .tc Cert.KernelIdeal.main_v1685)) (Φ₂ (Proc.devRef .tc Cert.ReferenceIdeal.main_v1695)) := by
  have e0 : @Eq ((⟨Cert.KernelIdeal.S_, .i32⟩ : BufTy).Contents (Elt F)) (Φ₁ (Proc.devRef .tc Cert.KernelIdeal.main_c_480)) (Φ₂ (Proc.devRef .tc Cert.ReferenceIdeal.main_c_480)) := step0 (β := ((⟨Cert.KernelIdeal.S_, .i32⟩ : BufTy).Contents (Elt F))) (eq0 (at_ fa0 (i := 112) rfl) :) (eq0 (at_ fb0 (i := 9) rfl) :)
  have e1 : @Eq ((⟨Cert.KernelIdeal.S2, .i32⟩ : BufTy).Contents (Elt F)) (Φ₁ (Proc.devRef .tc Cert.KernelIdeal.main_v1557)) (Φ₂ (Proc.devRef .tc Cert.ReferenceIdeal.main_v1567)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 10) rfl) :) e0
  have e2 : @Eq ((⟨Cert.KernelIdeal.S2, .i1⟩ : BufTy).Contents (Elt F)) (Φ₁ (Proc.devRef .tc Cert.KernelIdeal.main_v1558)) (Φ₂ (Proc.devRef .tc Cert.ReferenceIdeal.main_v1568)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 11) rfl) :) x0 e1
  have e3 : @Eq ((⟨Cert.KernelIdeal.S_, .i32⟩ : BufTy).Contents (Elt F)) (Φ₁ (Proc.devRef .tc Cert.KernelIdeal.main_c_481)) (Φ₂ (Proc.devRef .tc Cert.ReferenceIdeal.main_c_481)) := step0 (β := ((⟨Cert.KernelIdeal.S_, .i32⟩ : BufTy).Contents (Elt F))) (eq0 (at_ fa0 (i := 115) rfl) :) (eq0 (at_ fb0 (i := 12) rfl) :)
  have e4 : @Eq ((⟨Cert.KernelIdeal.S2, .i32⟩ : BufTy).Contents (Elt F)) (Φ₁ (Proc.devRef .tc Cert.KernelIdeal.main_v1559)) (Φ₂ (Proc.devRef .tc Cert.ReferenceIdeal.main_v1569)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 13) rfl) :) e3
  have e5 : @Eq ((⟨Cert.KernelIdeal.S2, .i32⟩ : BufTy).Contents (Elt F)) (Φ₁ (Proc.devRef .tc Cert.KernelIdeal.main_v1560)) (Φ₂ (Proc.devRef .tc Cert.ReferenceIdeal.main_v1570)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 14) rfl) :) x0 e4
  have e6 : @Eq ((⟨Cert.KernelIdeal.S2, .i32⟩ : BufTy).Contents (Elt F)) (Φ₁ (Proc.devRef .tc Cert.KernelIdeal.main_v1561)) (Φ₂ (Proc.devRef .tc Cert.ReferenceIdeal.main_v1571)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 15) rfl) :) e2 e5 x0
  have e7 : @Eq ((⟨Cert.KernelIdeal.S2x1, .i32⟩ : BufTy).Contents (Elt F)) (Φ₁ (Proc.devRef .tc Cert.KernelIdeal.main_v1562)) (Φ₂ (Proc.devRef .tc Cert.ReferenceIdeal.main_v1572)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 16) rfl) :) e6
  have e8 : @Eq ((⟨Cert.KernelIdeal.S131072x2, .f32⟩ : BufTy).Contents (Elt F)) (Φ₁ (Proc.devRef .tc Cert.KernelIdeal.main_v1563)) (Φ₂ (Proc.devRef .tc Cert.ReferenceIdeal.main_v1573)) := by rw [eq2 (at_ fa0 (i := 120) rfl), eq2 (at_ fb0 (i := 17) rfl), x1, e7] <;> rfl
  have e9 : @Eq ((⟨Cert.KernelIdeal.S131072x1, .f32⟩ : BufTy).Contents (Elt F)) (Φ₁ (Proc.devRef .tc Cert.KernelIdeal.main_v1564)) (Φ₂ (Proc.devRef .tc Cert.ReferenceIdeal.main_v1574)) := by rw [eq1 (at_ fa0 (i := 121) rfl), eq1 (at_ fb0 (i := 18) rfl), e8] <;> rfl
  have e10 : @Eq ((⟨Cert.KernelIdeal.S131072, .f32⟩ : BufTy).Contents (Elt F)) (Φ₁ (Proc.devRef .tc Cert.KernelIdeal.main_v1565)) (Φ₂ (Proc.devRef .tc Cert.ReferenceIdeal.main_v1575)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 19) rfl) :) e9
  have e11 : @Eq ((⟨Cert.KernelIdeal.S_, .f32⟩ : BufTy).Contents (Elt F)) (Φ₁ (Proc.devRef .tc Cert.KernelIdeal.main_cst_482)) (Φ₂ (Proc.devRef .tc Cert.ReferenceIdeal.main_cst_482)) := step0 (β := ((⟨Cert.KernelIdeal.S_, .f32⟩ : BufTy).Contents (Elt F))) (eq0 (at_ fa0 (i := 123) rfl) :) (eq0 (at_ fb0 (i := 20) rfl) :)
  have e12 : @Eq ((⟨Cert.KernelIdeal.S131072, .f32⟩ : BufTy).Contents (Elt F)) (Φ₁ (Proc.devRef .tc Cert.KernelIdeal.main_v1566)) (Φ₂ (Proc.devRef .tc Cert.ReferenceIdeal.main_v1576)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 21) rfl) :) e11
  have e13 : @Eq ((⟨Cert.KernelIdeal.S131072, .f32⟩ : BufTy).Contents (Elt F)) (Φ₁ (Proc.devRef .tc Cert.KernelIdeal.main_v1567)) (Φ₂ (Proc.devRef .tc Cert.ReferenceIdeal.main_v1577)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 22) rfl) :) e10 e12
  have e14 : @Eq ((⟨Cert.KernelIdeal.S_, .f32⟩ : BufTy).Contents (Elt F)) (Φ₁ (Proc.devRef .tc Cert.KernelIdeal.main_cst_483)) (Φ₂ (Proc.devRef .tc Cert.ReferenceIdeal.main_cst_483)) := step0 (β := ((⟨Cert.KernelIdeal.S_, .f32⟩ : BufTy).Contents (Elt F))) (eq0 (at_ fa0 (i := 126) rfl) :) (eq0 (at_ fb0 (i := 23) rfl) :)
  have e15 : @Eq ((⟨Cert.KernelIdeal.S131072, .f32⟩ : BufTy).Contents (Elt F)) (Φ₁ (Proc.devRef .tc Cert.KernelIdeal.main_v1568)) (Φ₂ (Proc.devRef .tc Cert.ReferenceIdeal.main_v1578)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 24) rfl) :) e14
  have e16 : @Eq ((⟨Cert.KernelIdeal.S131072, .f32⟩ : BufTy).Contents (Elt F)) (Φ₁ (Proc.devRef .tc Cert.KernelIdeal.main_v1569)) (Φ₂ (Proc.devRef .tc Cert.ReferenceIdeal.main_v1579)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 25) rfl) :) e13 e15
  have e17 : @Eq ((⟨Cert.KernelIdeal.S_, .f32⟩ : BufTy).Contents (Elt F)) (Φ₁ (Proc.devRef .tc Cert.KernelIdeal.main_cst_484)) (Φ₂ (Proc.devRef .tc Cert.ReferenceIdeal.main_cst_484)) := step0 (β := ((⟨Cert.KernelIdeal.S_, .f32⟩ : BufTy).Contents (Elt F))) (eq0 (at_ fa0 (i := 129) rfl) :) (eq0 (at_ fb0 (i := 26) rfl) :)
  have e18 : @Eq ((⟨Cert.KernelIdeal.S131072, .f32⟩ : BufTy).Contents (Elt F)) (Φ₁ (Proc.devRef .tc Cert.KernelIdeal.main_v1570)) (Φ₂ (Proc.devRef .tc Cert.ReferenceIdeal.main_v1580)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 27) rfl) :) e17
  have e19 : @Eq ((⟨Cert.KernelIdeal.S131072, .f32⟩ : BufTy).Contents (Elt F)) (Φ₁ (Proc.devRef .tc Cert.KernelIdeal.main_v1571)) (Φ₂ (Proc.devRef .tc Cert.ReferenceIdeal.main_v1581)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 28) rfl) :) e16 e18
  have e20 : @Eq ((⟨Cert.KernelIdeal.S131072x1, .f32⟩ : BufTy).Contents (Elt F)) (Φ₁ (Proc.devRef .tc Cert.KernelIdeal.main_v1572)) (Φ₂ (Proc.devRef .tc Cert.ReferenceIdeal.main_v1582)) := by rw [eq1 (at_ fa0 (i := 132) rfl), eq1 (at_ fb0 (i := 29) rfl), e8] <;> rfl
  have e21 : @Eq ((⟨Cert.KernelIdeal.S131072, .f32⟩ : BufTy).Contents (Elt F)) (Φ₁ (Proc.devRef .tc Cert.KernelIdeal.main_v1573)) (Φ₂ (Proc.devRef .tc Cert.ReferenceIdeal.main_v1583)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 30) rfl) :) e20
  have e22 : @Eq ((⟨Cert.KernelIdeal.S_, .f32⟩ : BufTy).Contents (Elt F)) (Φ₁ (Proc.devRef .tc Cert.KernelIdeal.main_cst_485)) (Φ₂ (Proc.devRef .tc Cert.ReferenceIdeal.main_cst_485)) := step0 (β := ((⟨Cert.KernelIdeal.S_, .f32⟩ : BufTy).Contents (Elt F))) (eq0 (at_ fa0 (i := 134) rfl) :) (eq0 (at_ fb0 (i := 31) rfl) :)
  have e23 : @Eq ((⟨Cert.KernelIdeal.S131072, .f32⟩ : BufTy).Contents (Elt F)) (Φ₁ (Proc.devRef .tc Cert.KernelIdeal.main_v1574)) (Φ₂ (Proc.devRef .tc Cert.ReferenceIdeal.main_v1584)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 32) rfl) :) e22
  have e24 : @Eq ((⟨Cert.KernelIdeal.S131072, .f32⟩ : BufTy).Contents (Elt F)) (Φ₁ (Proc.devRef .tc Cert.KernelIdeal.main_v1575)) (Φ₂ (Proc.devRef .tc Cert.ReferenceIdeal.main_v1585)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 33) rfl) :) e21 e23
  have e25 : @Eq ((⟨Cert.KernelIdeal.S_, .f32⟩ : BufTy).Contents (Elt F)) (Φ₁ (Proc.devRef .tc Cert.KernelIdeal.main_cst_486)) (Φ₂ (Proc.devRef .tc Cert.ReferenceIdeal.main_cst_486)) := step0 (β := ((⟨Cert.KernelIdeal.S_, .f32⟩ : BufTy).Contents (Elt F))) (eq0 (at_ fa0 (i := 137) rfl) :) (eq0 (at_ fb0 (i := 34) rfl) :)
  have e26 : @Eq ((⟨Cert.KernelIdeal.S131072, .f32⟩ : BufTy).Contents (Elt F)) (Φ₁ (Proc.devRef .tc Cert.KernelIdeal.main_v1576)) (Φ₂ (Proc.devRef .tc Cert.ReferenceIdeal.main_v1586)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 35) rfl) :) e25
  have e27 : @Eq ((⟨Cert.KernelIdeal.S131072, .f32⟩ : BufTy).Contents (Elt F)) (Φ₁ (Proc.devRef .tc Cert.KernelIdeal.main_v1577)) (Φ₂ (Proc.devRef .tc Cert.ReferenceIdeal.main_v1587)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 36) rfl) :) e24 e26
  have e28 : @Eq ((⟨Cert.KernelIdeal.S_, .f32⟩ : BufTy).Contents (Elt F)) (Φ₁ (Proc.devRef .tc Cert.KernelIdeal.main_cst_487)) (Φ₂ (Proc.devRef .tc Cert.ReferenceIdeal.main_cst_487)) := step0 (β := ((⟨Cert.KernelIdeal.S_, .f32⟩ : BufTy).Contents (Elt F))) (eq0 (at_ fa0 (i := 140) rfl) :) (eq0 (at_ fb0 (i := 37) rfl) :)
  have e29 : @Eq ((⟨Cert.KernelIdeal.S131072, .f32⟩ : BufTy).Contents (Elt F)) (Φ₁ (Proc.devRef .tc Cert.KernelIdeal.main_v1578)) (Φ₂ (Proc.devRef .tc Cert.ReferenceIdeal.main_v1588)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 38) rfl) :) e28
  have e30 : @Eq ((⟨Cert.KernelIdeal.S131072, .f32⟩ : BufTy).Contents (Elt F)) (Φ₁ (Proc.devRef .tc Cert.KernelIdeal.main_v1579)) (Φ₂ (Proc.devRef .tc Cert.ReferenceIdeal.main_v1589)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 39) rfl) :) e27 e29
  have e31 : @Eq ((⟨Cert.KernelIdeal.S131072, .f32⟩ : BufTy).Contents (Elt F)) (Φ₁ (Proc.devRef .tc Cert.KernelIdeal.main_v1580)) (Φ₂ (Proc.devRef .tc Cert.ReferenceIdeal.main_v1590)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 40) rfl) :) e19
  have e32 : @Eq ((⟨Cert.KernelIdeal.S131072, .f32⟩ : BufTy).Contents (Elt F)) (Φ₁ (Proc.devRef .tc Cert.KernelIdeal.main_v1581)) (Φ₂ (Proc.devRef .tc Cert.ReferenceIdeal.main_v1591)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 41) rfl) :) e30
  have e33 : @Eq ((⟨Cert.KernelIdeal.S131072, .f32⟩ : BufTy).Contents (Elt F)) (Φ₁ (Proc.devRef .tc Cert.KernelIdeal.main_v1582)) (Φ₂ (Proc.devRef .tc Cert.ReferenceIdeal.main_v1592)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 42) rfl) :) e19 e31
  have e34 : @Eq ((⟨Cert.KernelIdeal.S131072, .f32⟩ : BufTy).Contents (Elt F)) (Φ₁ (Proc.devRef .tc Cert.KernelIdeal.main_v1583)) (Φ₂ (Proc.devRef .tc Cert.ReferenceIdeal.main_v1593)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 43) rfl) :) e30 e32
  have e35 : @Eq ((⟨Cert.KernelIdeal.S131072, .i32⟩ : BufTy).Contents (Elt F)) (Φ₁ (Proc.devRef .tc Cert.KernelIdeal.main_v1584)) (Φ₂ (Proc.devRef .tc Cert.ReferenceIdeal.main_v1594)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 44) rfl) :) e31
  have e36 : @Eq ((⟨Cert.KernelIdeal.S_, .i32⟩ : BufTy).Contents (Elt F)) (Φ₁ (Proc.devRef .tc Cert.KernelIdeal.main_c_488)) (Φ₂ (Proc.devRef .tc Cert.ReferenceIdeal.main_c_488)) := step0 (β := ((⟨Cert.KernelIdeal.S_, .i32⟩ : BufTy).Contents (Elt F))) (eq0 (at_ fa0 (i := 148) rfl) :) (eq0 (at_ fb0 (i := 45) rfl) :)
  have e37 : @Eq ((⟨Cert.KernelIdeal.S_, .i32⟩ : BufTy).Contents (Elt F)) (Φ₁ (Proc.devRef .tc Cert.KernelIdeal.main_c_489)) (Φ₂ (Proc.devRef .tc Cert.ReferenceIdeal.main_c_489)) := step0 (β := ((⟨Cert.KernelIdeal.S_, .i32⟩ : BufTy).Contents (Elt F))) (eq0 (at_ fa0 (i := 149) rfl) :) (eq0 (at_ fb0 (i := 46) rfl) :)
  have e38 : @Eq ((⟨Cert.KernelIdeal.S_, .i32⟩ : BufTy).Contents (Elt F)) (Φ₁ (Proc.devRef .tc Cert.KernelIdeal.main_call48_v0)) (Φ₂ (Proc.devRef .tc Cert.ReferenceIdeal.main_call48_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 47) rfl) :) e36
  have e39 : @Eq ((⟨Cert.KernelIdeal.S131072, .i32⟩ : BufTy).Contents (Elt F)) (Φ₁ (Proc.devRef .tc Cert.KernelIdeal.main_call48_v1)) (Φ₂ (Proc.devRef .tc Cert.ReferenceIdeal.main_call48_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 48) rfl) :) e38
  have e40 : @Eq ((⟨Cert.KernelIdeal.S131072, .i32⟩ : BufTy).Contents (Elt F)) (Φ₁ (Proc.devRef .tc Cert.KernelIdeal.main_call48_v2)) (Φ₂ (Proc.devRef .tc Cert.ReferenceIdeal.main_call48_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 49) rfl) :) e39 e35
  have e41 : @Eq ((⟨Cert.KernelIdeal.S_, .i32⟩ : BufTy).Contents (Elt F)) (Φ₁ (Proc.devRef .tc Cert.KernelIdeal.main_call48_v3)) (Φ₂ (Proc.devRef .tc Cert.ReferenceIdeal.main_call48_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 50) rfl) :) e37
  have e42 : @Eq ((⟨Cert.KernelIdeal.S131072, .i32⟩ : BufTy).Contents (Elt F)) (Φ₁ (Proc.devRef .tc Cert.KernelIdeal.main_call48_v4)) (Φ₂ (Proc.devRef .tc Cert.ReferenceIdeal.main_call48_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 51) rfl) :) e41
  have e43 : @Eq ((⟨Cert.KernelIdeal.S131072, .i32⟩ : BufTy).Contents (Elt F)) (Φ₁ (Proc.devRef .tc Cert.KernelIdeal.main_v1585)) (Φ₂ (Proc.devRef .tc Cert.ReferenceIdeal.main_v1595)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 52) rfl) :) e42 e40
  have e44 : @Eq ((⟨Cert.KernelIdeal.S_, .i32⟩ : BufTy).Contents (Elt F)) (Φ₁ (Proc.devRef .tc Cert.KernelIdeal.main_c_490)) (Φ₂ (Proc.devRef .tc Cert.ReferenceIdeal.main_c_490)) := step0 (β := ((⟨Cert.KernelIdeal.S_, .i32⟩ : BufTy).Contents (Elt F))) (eq0 (at_ fa2 (i := 0) rfl) :) (eq0 (at_ fb0 (i := 53) rfl) :)
  have e45 : @Eq ((⟨Cert.KernelIdeal.S131072, .i32⟩ : BufTy).Contents (Elt F)) (Φ₁ (Proc.devRef .tc Cert.KernelIdeal.main_v1586)) (Φ₂ (Proc.devRef .tc Cert.ReferenceIdeal.main_v1596)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb0 (i := 54) rfl) :) e44
  have e46 : @Eq ((⟨Cert.KernelIdeal.S131072, .i32⟩ : BufTy).Contents (Elt F)) (Φ₁ (Proc.devRef .tc Cert.KernelIdeal.main_v1587)) (Φ₂ (Proc.devRef .tc Cert.ReferenceIdeal.main_v1597)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb0 (i := 55) rfl) :) e43 e45
  have e47 : @Eq ((⟨Cert.KernelIdeal.S_, .i32⟩ : BufTy).Contents (Elt F)) (Φ₁ (Proc.devRef .tc Cert.KernelIdeal.main_c_491)) (Φ₂ (Proc.devRef .tc Cert.ReferenceIdeal.main_c_491)) := step0 (β := ((⟨Cert.KernelIdeal.S_, .i32⟩ : BufTy).Contents (Elt F))) (eq0 (at_ fa2 (i := 3) rfl) :) (eq0 (at_ fb0 (i := 56) rfl) :)
  have e48 : @Eq ((⟨Cert.KernelIdeal.S_, .i32⟩ : BufTy).Contents (Elt F)) (Φ₁ (Proc.devRef .tc Cert.KernelIdeal.main_c_492)) (Φ₂ (Proc.devRef .tc Cert.ReferenceIdeal.main_c_492)) := step0 (β := ((⟨Cert.KernelIdeal.S_, .i32⟩ : BufTy).Contents (Elt F))) (eq0 (at_ fa2 (i := 4) rfl) :) (eq0 (at_ fb0 (i := 57) rfl) :)
  have e49 : @Eq ((⟨Cert.KernelIdeal.S_, .i32⟩ : BufTy).Contents (Elt F)) (Φ₁ (Proc.devRef .tc Cert.KernelIdeal.main_call49_v0)) (Φ₂ (Proc.devRef .tc Cert.ReferenceIdeal.main_call49_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb0 (i := 58) rfl) :) e47
  have e50 : @Eq ((⟨Cert.KernelIdeal.S131072, .i32⟩ : BufTy).Contents (Elt F)) (Φ₁ (Proc.devRef .tc Cert.KernelIdeal.main_call49_v1)) (Φ₂ (Proc.devRef .tc Cert.ReferenceIdeal.main_call49_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb0 (i := 59) rfl) :) e49
  have e51 : @Eq ((⟨Cert.KernelIdeal.S131072, .i32⟩ : BufTy).Contents (Elt F)) (Φ₁ (Proc.devRef .tc Cert.KernelIdeal.main_call49_v2)) (Φ₂ (Proc.devRef .tc Cert.ReferenceIdeal.main_call49_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb0 (i := 60) rfl) :) e50 e46
  have e52 : @Eq ((⟨Cert.KernelIdeal.S_, .i32⟩ : BufTy).Contents (Elt F)) (Φ₁ (Proc.devRef .tc Cert.KernelIdeal.main_call49_v3)) (Φ₂ (Proc.devRef .tc Cert.ReferenceIdeal.main_call49_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb0 (i := 61) rfl) :) e48
  have e53 : @Eq ((⟨Cert.KernelIdeal.S131072, .i32⟩ : BufTy).Contents (Elt F)) (Φ₁ (Proc.devRef .tc Cert.KernelIdeal.main_call49_v4)) (Φ₂ (Proc.devRef .tc Cert.ReferenceIdeal.main_call49_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb0 (i := 62) rfl) :) e52
  have e54 : @Eq ((⟨Cert.KernelIdeal.S131072, .i32⟩ : BufTy).Contents (Elt F)) (Φ₁ (Proc.devRef .tc Cert.KernelIdeal.main_v1588)) (Φ₂ (Proc.devRef .tc Cert.ReferenceIdeal.main_v1598)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb0 (i := 63) rfl) :) e53 e51
  have e55 : @Eq ((⟨Cert.KernelIdeal.S131072, .i32⟩ : BufTy).Contents (Elt F)) (Φ₁ (Proc.devRef .tc Cert.KernelIdeal.main_v1589)) (Φ₂ (Proc.devRef .tc Cert.ReferenceIdeal.main_v1599)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb0 (i := 64) rfl) :) e32
  have e56 : @Eq ((⟨Cert.KernelIdeal.S_, .i32⟩ : BufTy).Contents (Elt F)) (Φ₁ (Proc.devRef .tc Cert.KernelIdeal.main_c_493)) (Φ₂ (Proc.devRef .tc Cert.ReferenceIdeal.main_c_493)) := step0 (β := ((⟨Cert.KernelIdeal.S_, .i32⟩ : BufTy).Contents (Elt F))) (eq0 (at_ fa4 (i := 1) rfl) :) (eq0 (at_ fb0 (i := 65) rfl) :)
  have e57 : @Eq ((⟨Cert.KernelIdeal.S_, .i32⟩ : BufTy).Contents (Elt F)) (Φ₁ (Proc.devRef .tc Cert.KernelIdeal.main_c_494)) (Φ₂ (Proc.devRef .tc Cert.ReferenceIdeal.main_c_494)) := step0 (β := ((⟨Cert.KernelIdeal.S_, .i32⟩ : BufTy).Contents (Elt F))) (eq0 (at_ fa4 (i := 2) rfl) :) (eq0 (at_ fb0 (i := 66) rfl) :)
  have e58 : @Eq ((⟨Cert.KernelIdeal.S_, .i32⟩ : BufTy).Contents (Elt F)) (Φ₁ (Proc.devRef .tc Cert.KernelIdeal.main_call50_v0)) (Φ₂ (Proc.devRef .tc Cert.ReferenceIdeal.main_call50_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb0 (i := 67) rfl) :) e56
  have e59 : @Eq ((⟨Cert.KernelIdeal.S131072, .i32⟩ : BufTy).Contents (Elt F)) (Φ₁ (Proc.devRef .tc Cert.KernelIdeal.main_call50_v1)) (Φ₂ (Proc.devRef .tc Cert.ReferenceIdeal.main_call50_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb0 (i := 68) rfl) :) e58
  have e60 : @Eq ((⟨Cert.KernelIdeal.S131072, .i32⟩ : BufTy).Contents (Elt F)) (Φ₁ (Proc.devRef .tc Cert.KernelIdeal.main_call50_v2)) (Φ₂ (Proc.devRef .tc Cert.ReferenceIdeal.main_call50_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb0 (i := 69) rfl) :) e59 e55
  have e61 : @Eq ((⟨Cert.KernelIdeal.S_, .i32⟩ : BufTy).Contents (Elt F)) (Φ₁ (Proc.devRef .tc Cert.KernelIdeal.main_call50_v3)) (Φ₂ (Proc.devRef .tc Cert.ReferenceIdeal.main_call50_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb0 (i := 70) rfl) :) e57
  have e62 : @Eq ((⟨Cert.KernelIdeal.S131072, .i32⟩ : BufTy).Contents (Elt F)) (Φ₁ (Proc.devRef .tc Cert.KernelIdeal.main_call50_v4)) (Φ₂ (Proc.devRef .tc Cert.ReferenceIdeal.main_call50_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb0 (i := 71) rfl) :) e61
  have e63 : @Eq ((⟨Cert.KernelIdeal.S131072, .i32⟩ : BufTy).Contents (Elt F)) (Φ₁ (Proc.devRef .tc Cert.KernelIdeal.main_v1590)) (Φ₂ (Proc.devRef .tc Cert.ReferenceIdeal.main_v1600)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb0 (i := 72) rfl) :) e62 e60
  have e64 : @Eq ((⟨Cert.KernelIdeal.S_, .i32⟩ : BufTy).Contents (Elt F)) (Φ₁ (Proc.devRef .tc Cert.KernelIdeal.main_c_495)) (Φ₂ (Proc.devRef .tc Cert.ReferenceIdeal.main_c_495)) := step0 (β := ((⟨Cert.KernelIdeal.S_, .i32⟩ : BufTy).Contents (Elt F))) (eq0 (at_ fa6 (i := 0) rfl) :) (eq0 (at_ fb0 (i := 73) rfl) :)
  have e65 : @Eq ((⟨Cert.KernelIdeal.S131072, .i32⟩ : BufTy).Contents (Elt F)) (Φ₁ (Proc.devRef .tc Cert.KernelIdeal.main_v1591)) (Φ₂ (Proc.devRef .tc Cert.ReferenceIdeal.main_v1601)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb0 (i := 74) rfl) :) e64
  have e66 : @Eq ((⟨Cert.KernelIdeal.S131072, .i32⟩ : BufTy).Contents (Elt F)) (Φ₁ (Proc.devRef .tc Cert.KernelIdeal.main_v1592)) (Φ₂ (Proc.devRef .tc Cert.ReferenceIdeal.main_v1602)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 0) rfl) :) e63 e65
  have e67 : @Eq ((⟨Cert.KernelIdeal.S_, .i32⟩ : BufTy).Contents (Elt F)) (Φ₁ (Proc.devRef .tc Cert.KernelIdeal.main_c_496)) (Φ₂ (Proc.devRef .tc Cert.ReferenceIdeal.main_c_496)) := step0 (β := ((⟨Cert.KernelIdeal.S_, .i32⟩ : BufTy).Contents (Elt F))) (eq0 (at_ fa6 (i := 3) rfl) :) (eq0 (at_ fb1 (i := 1) rfl) :)
  have e68 : @Eq ((⟨Cert.KernelIdeal.S_, .i32⟩ : BufTy).Contents (Elt F)) (Φ₁ (Proc.devRef .tc Cert.KernelIdeal.main_c_497)) (Φ₂ (Proc.devRef .tc Cert.ReferenceIdeal.main_c_497)) := step0 (β := ((⟨Cert.KernelIdeal.S_, .i32⟩ : BufTy).Contents (Elt F))) (eq0 (at_ fa6 (i := 4) rfl) :) (eq0 (at_ fb1 (i := 2) rfl) :)
  have e69 : @Eq ((⟨Cert.KernelIdeal.S_, .i32⟩ : BufTy).Contents (Elt F)) (Φ₁ (Proc.devRef .tc Cert.KernelIdeal.main_call51_v0)) (Φ₂ (Proc.devRef .tc Cert.ReferenceIdeal.main_call51_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 3) rfl) :) e67
  have e70 : @Eq ((⟨Cert.KernelIdeal.S131072, .i32⟩ : BufTy).Contents (Elt F)) (Φ₁ (Proc.devRef .tc Cert.KernelIdeal.main_call51_v1)) (Φ₂ (Proc.devRef .tc Cert.ReferenceIdeal.main_call51_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 4) rfl) :) e69
  have e71 : @Eq ((⟨Cert.KernelIdeal.S131072, .i32⟩ : BufTy).Contents (Elt F)) (Φ₁ (Proc.devRef .tc Cert.KernelIdeal.main_call51_v2)) (Φ₂ (Proc.devRef .tc Cert.ReferenceIdeal.main_call51_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 5) rfl) :) e70 e66
  have e72 : @Eq ((⟨Cert.KernelIdeal.S_, .i32⟩ : BufTy).Contents (Elt F)) (Φ₁ (Proc.devRef .tc Cert.KernelIdeal.main_call51_v3)) (Φ₂ (Proc.devRef .tc Cert.ReferenceIdeal.main_call51_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 6) rfl) :) e68
  have e73 : @Eq ((⟨Cert.KernelIdeal.S131072, .i32⟩ : BufTy).Contents (Elt F)) (Φ₁ (Proc.devRef .tc Cert.KernelIdeal.main_call51_v4)) (Φ₂ (Proc.devRef .tc Cert.ReferenceIdeal.main_call51_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 7) rfl) :) e72
  have e74 : @Eq ((⟨Cert.KernelIdeal.S131072, .i32⟩ : BufTy).Contents (Elt F)) (Φ₁ (Proc.devRef .tc Cert.KernelIdeal.main_v1593)) (Φ₂ (Proc.devRef .tc Cert.ReferenceIdeal.main_v1603)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 8) rfl) :) e73 e71
  have e75 : @Eq ((⟨Cert.KernelIdeal.S_, .i32⟩ : BufTy).Contents (Elt F)) (Φ₁ (Proc.devRef .tc Cert.KernelIdeal.main_c_498)) (Φ₂ (Proc.devRef .tc Cert.ReferenceIdeal.main_c_498)) := step0 (β := ((⟨Cert.KernelIdeal.S_, .i32⟩ : BufTy).Contents (Elt F))) (eq0 (at_ fa8 (i := 0) rfl) :) (eq0 (at_ fb1 (i := 9) rfl) :)
  have e76 : @Eq ((⟨Cert.KernelIdeal.S131072, .i32⟩ : BufTy).Contents (Elt F)) (Φ₁ (Proc.devRef .tc Cert.KernelIdeal.main_v1594)) (Φ₂ (Proc.devRef .tc Cert.ReferenceIdeal.main_v1604)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 10) rfl) :) e75
  have e77 : @Eq ((⟨Cert.KernelIdeal.S131072, .i1⟩ : BufTy).Contents (Elt F)) (Φ₁ (Proc.devRef .tc Cert.KernelIdeal.main_v1595)) (Φ₂ (Proc.devRef .tc Cert.ReferenceIdeal.main_v1605)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 11) rfl) :) e63 e76
  have e78 : @Eq ((⟨Cert.KernelIdeal.S_, .i32⟩ : BufTy).Contents (Elt F)) (Φ₁ (Proc.devRef .tc Cert.KernelIdeal.main_c_499)) (Φ₂ (Proc.devRef .tc Cert.ReferenceIdeal.main_c_499)) := step0 (β := ((⟨Cert.KernelIdeal.S_, .i32⟩ : BufTy).Contents (Elt F))) (eq0 (at_ fa8 (i := 3) rfl) :) (eq0 (at_ fb1 (i := 12) rfl) :)
  have e79 : @Eq ((⟨Cert.KernelIdeal.S131072, .i32⟩ : BufTy).Contents (Elt F)) (Φ₁ (Proc.devRef .tc Cert.KernelIdeal.main_v1596)) (Φ₂ (Proc.devRef .tc Cert.ReferenceIdeal.main_v1606)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 13) rfl) :) e78
  have e80 : @Eq ((⟨Cert.KernelIdeal.S131072, .i32⟩ : BufTy).Contents (Elt F)) (Φ₁ (Proc.devRef .tc Cert.KernelIdeal.main_v1597)) (Φ₂ (Proc.devRef .tc Cert.ReferenceIdeal.main_v1607)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 14) rfl) :) e63 e79
  have e81 : @Eq ((⟨Cert.KernelIdeal.S131072, .i32⟩ : BufTy).Contents (Elt F)) (Φ₁ (Proc.devRef .tc Cert.KernelIdeal.main_v1598)) (Φ₂ (Proc.devRef .tc Cert.ReferenceIdeal.main_v1608)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 15) rfl) :) e77 e80 e63
  have e82 : @Eq ((⟨Cert.KernelIdeal.S_, .i32⟩ : BufTy).Contents (Elt F)) (Φ₁ (Proc.devRef .tc Cert.KernelIdeal.main_c_500)) (Φ₂ (Proc.devRef .tc Cert.ReferenceIdeal.main_c_500)) := step0 (β := ((⟨Cert.KernelIdeal.S_, .i32⟩ : BufTy).Contents (Elt F))) (eq0 (at_ fa8 (i := 7) rfl) :) (eq0 (at_ fb1 (i := 16) rfl) :)
  have e83 : @Eq ((⟨Cert.KernelIdeal.S131072, .i32⟩ : BufTy).Contents (Elt F)) (Φ₁ (Proc.devRef .tc Cert.KernelIdeal.main_v1599)) (Φ₂ (Proc.devRef .tc Cert.ReferenceIdeal.main_v1609)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 17) rfl) :) e82
  have e84 : @Eq ((⟨Cert.KernelIdeal.S131072, .i1⟩ : BufTy).Contents (Elt F)) (Φ₁ (Proc.devRef .tc Cert.KernelIdeal.main_v1600)) (Φ₂ (Proc.devRef .tc Cert.ReferenceIdeal.main_v1610)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 18) rfl) :) e43 e83
  have e85 : @Eq ((⟨Cert.KernelIdeal.S_, .i32⟩ : BufTy).Contents (Elt F)) (Φ₁ (Proc.devRef .tc Cert.KernelIdeal.main_c_501)) (Φ₂ (Proc.devRef .tc Cert.ReferenceIdeal.main_c_501)) := step0 (β := ((⟨Cert.KernelIdeal.S_, .i32⟩ : BufTy).Contents (Elt F))) (eq0 (at_ fa8 (i := 10) rfl) :) (eq0 (at_ fb1 (i := 19) rfl) :)
  have e86 : @Eq ((⟨Cert.KernelIdeal.S131072, .i32⟩ : BufTy).Contents (Elt F)) (Φ₁ (Proc.devRef .tc Cert.KernelIdeal.main_v1601)) (Φ₂ (Proc.devRef .tc Cert.ReferenceIdeal.main_v1611)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 20) rfl) :) e85
  have e87 : @Eq ((⟨Cert.KernelIdeal.S131072, .i32⟩ : BufTy).Contents (Elt F)) (Φ₁ (Proc.devRef .tc Cert.KernelIdeal.main_v1602)) (Φ₂ (Proc.devRef .tc Cert.ReferenceIdeal.main_v1612)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 21) rfl) :) e43 e86
  have e88 : @Eq ((⟨Cert.KernelIdeal.S131072, .i32⟩ : BufTy).Contents (Elt F)) (Φ₁ (Proc.devRef .tc Cert.KernelIdeal.main_v1603)) (Φ₂ (Proc.devRef .tc Cert.ReferenceIdeal.main_v1613)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 22) rfl) :) e84 e87 e43
  have e89 : @Eq ((⟨Cert.KernelIdeal.S131072x1, .i32⟩ : BufTy).Contents (Elt F)) (Φ₁ (Proc.devRef .tc Cert.KernelIdeal.main_v1604)) (Φ₂ (Proc.devRef .tc Cert.ReferenceIdeal.main_v1614)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 23) rfl) :) e81
  have e90 : @Eq ((⟨Cert.KernelIdeal.S131072x1, .i32⟩ : BufTy).Contents (Elt F)) (Φ₁ (Proc.devRef .tc Cert.KernelIdeal.main_v1605)) (Φ₂ (Proc.devRef .tc Cert.ReferenceIdeal.main_v1615)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 24) rfl) :) e88
  have e91 : @Eq ((⟨Cert.KernelIdeal.S131072x2, .i32⟩ : BufTy).Contents (Elt F)) (Φ₁ (Proc.devRef .tc Cert.KernelIdeal.main_v1606)) (Φ₂ (Proc.devRef .tc Cert.ReferenceIdeal.main_v1616)) := by rw [eq2 (at_ fa8 (i := 16) rfl), eq2 (at_ fb1 (i := 25) rfl), e89, e90] <;> rfl
  have e92 : @Eq ((⟨Cert.KernelIdeal.S32x131072, .f32⟩ : BufTy).Contents (Elt F)) (Φ₁ (Proc.devRef .tc Cert.KernelIdeal.main_v1607)) (Φ₂ (Proc.devRef .tc Cert.ReferenceIdeal.main_v1617)) := by rw [eq2 (at_ fa8 (i := 17) rfl), eq2 (at_ fb1 (i := 26) rfl), x2, e91] <;> rfl
  have e93 : @Eq ((⟨Cert.KernelIdeal.S_, .i32⟩ : BufTy).Contents (Elt F)) (Φ₁ (Proc.devRef .tc Cert.KernelIdeal.main_c_502)) (Φ₂ (Proc.devRef .tc Cert.ReferenceIdeal.main_c_502)) := step0 (β := ((⟨Cert.KernelIdeal.S_, .i32⟩ : BufTy).Contents (Elt F))) (eq0 (at_ fa8 (i := 18) rfl) :) (eq0 (at_ fb1 (i := 27) rfl) :)
  have e94 : @Eq ((⟨Cert.KernelIdeal.S131072, .i32⟩ : BufTy).Contents (Elt F)) (Φ₁ (Proc.devRef .tc Cert.KernelIdeal.main_v1608)) (Φ₂ (Proc.devRef .tc Cert.ReferenceIdeal.main_v1618)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 28) rfl) :) e93
  have e95 : @Eq ((⟨Cert.KernelIdeal.S131072, .i1⟩ : BufTy).Contents (Elt F)) (Φ₁ (Proc.devRef .tc Cert.KernelIdeal.main_v1609)) (Φ₂ (Proc.devRef .tc Cert.ReferenceIdeal.main_v1619)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 29) rfl) :) e63 e94
  have e96 : @Eq ((⟨Cert.KernelIdeal.S_, .i32⟩ : BufTy).Contents (Elt F)) (Φ₁ (Proc.devRef .tc Cert.KernelIdeal.main_c_503)) (Φ₂ (Proc.devRef .tc Cert.ReferenceIdeal.main_c_503)) := step0 (β := ((⟨Cert.KernelIdeal.S_, .i32⟩ : BufTy).Contents (Elt F))) (eq0 (at_ fa8 (i := 21) rfl) :) (eq0 (at_ fb1 (i := 30) rfl) :)
  have e97 : @Eq ((⟨Cert.KernelIdeal.S131072, .i32⟩ : BufTy).Contents (Elt F)) (Φ₁ (Proc.devRef .tc Cert.KernelIdeal.main_v1610)) (Φ₂ (Proc.devRef .tc Cert.ReferenceIdeal.main_v1620)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 31) rfl) :) e96
  have e98 : @Eq ((⟨Cert.KernelIdeal.S131072, .i32⟩ : BufTy).Contents (Elt F)) (Φ₁ (Proc.devRef .tc Cert.KernelIdeal.main_v1611)) (Φ₂ (Proc.devRef .tc Cert.ReferenceIdeal.main_v1621)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 32) rfl) :) e63 e97
  have e99 : @Eq ((⟨Cert.KernelIdeal.S131072, .i32⟩ : BufTy).Contents (Elt F)) (Φ₁ (Proc.devRef .tc Cert.KernelIdeal.main_v1612)) (Φ₂ (Proc.devRef .tc Cert.ReferenceIdeal.main_v1622)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 33) rfl) :) e95 e98 e63
  have e100 : @Eq ((⟨Cert.KernelIdeal.S_, .i32⟩ : BufTy).Contents (Elt F)) (Φ₁ (Proc.devRef .tc Cert.KernelIdeal.main_c_504)) (Φ₂ (Proc.devRef .tc Cert.ReferenceIdeal.main_c_504)) := step0 (β := ((⟨Cert.KernelIdeal.S_, .i32⟩ : BufTy).Contents (Elt F))) (eq0 (at_ fa8 (i := 25) rfl) :) (eq0 (at_ fb1 (i := 34) rfl) :)
  have e101 : @Eq ((⟨Cert.KernelIdeal.S131072, .i32⟩ : BufTy).Contents (Elt F)) (Φ₁ (Proc.devRef .tc Cert.KernelIdeal.main_v1613)) (Φ₂ (Proc.devRef .tc Cert.ReferenceIdeal.main_v1623)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 35) rfl) :) e100
  have e102 : @Eq ((⟨Cert.KernelIdeal.S131072, .i1⟩ : BufTy).Contents (Elt F)) (Φ₁ (Proc.devRef .tc Cert.KernelIdeal.main_v1614)) (Φ₂ (Proc.devRef .tc Cert.ReferenceIdeal.main_v1624)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 36) rfl) :) e54 e101
  have e103 : @Eq ((⟨Cert.KernelIdeal.S_, .i32⟩ : BufTy).Contents (Elt F)) (Φ₁ (Proc.devRef .tc Cert.KernelIdeal.main_c_505)) (Φ₂ (Proc.devRef .tc Cert.ReferenceIdeal.main_c_505)) := step0 (β := ((⟨Cert.KernelIdeal.S_, .i32⟩ : BufTy).Contents (Elt F))) (eq0 (at_ fa8 (i := 28) rfl) :) (eq0 (at_ fb1 (i := 37) rfl) :)
  have e104 : @Eq ((⟨Cert.KernelIdeal.S131072, .i32⟩ : BufTy).Contents (Elt F)) (Φ₁ (Proc.devRef .tc Cert.KernelIdeal.main_v1615)) (Φ₂ (Proc.devRef .tc Cert.ReferenceIdeal.main_v1625)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 38) rfl) :) e103
  have e105 : @Eq ((⟨Cert.KernelIdeal.S131072, .i32⟩ : BufTy).Contents (Elt F)) (Φ₁ (Proc.devRef .tc Cert.KernelIdeal.main_v1616)) (Φ₂ (Proc.devRef .tc Cert.ReferenceIdeal.main_v1626)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 39) rfl) :) e54 e104
  have e106 : @Eq ((⟨Cert.KernelIdeal.S131072, .i32⟩ : BufTy).Contents (Elt F)) (Φ₁ (Proc.devRef .tc Cert.KernelIdeal.main_v1617)) (Φ₂ (Proc.devRef .tc Cert.ReferenceIdeal.main_v1627)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 40) rfl) :) e102 e105 e54
  have e107 : @Eq ((⟨Cert.KernelIdeal.S131072x1, .i32⟩ : BufTy).Contents (Elt F)) (Φ₁ (Proc.devRef .tc Cert.KernelIdeal.main_v1618)) (Φ₂ (Proc.devRef .tc Cert.ReferenceIdeal.main_v1628)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 41) rfl) :) e99
  have e108 : @Eq ((⟨Cert.KernelIdeal.S131072x1, .i32⟩ : BufTy).Contents (Elt F)) (Φ₁ (Proc.devRef .tc Cert.KernelIdeal.main_v1619)) (Φ₂ (Proc.devRef .tc Cert.ReferenceIdeal.main_v1629)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 42) rfl) :) e106
  have e109 : @Eq ((⟨Cert.KernelIdeal.S131072x2, .i32⟩ : BufTy).Contents (Elt F)) (Φ₁ (Proc.devRef .tc Cert.KernelIdeal.main_v1620)) (Φ₂ (Proc.devRef .tc Cert.ReferenceIdeal.main_v1630)) := by rw [eq2 (at_ fa8 (i := 34) rfl), eq2 (at_ fb1 (i := 43) rfl), e107, e108] <;> rfl
  have e110 : @Eq ((⟨Cert.KernelIdeal.S32x131072, .f32⟩ : BufTy).Contents (Elt F)) (Φ₁ (Proc.devRef .tc Cert.KernelIdeal.main_v1621)) (Φ₂ (Proc.devRef .tc Cert.ReferenceIdeal.main_v1631)) := by rw [eq2 (at_ fa8 (i := 35) rfl), eq2 (at_ fb1 (i := 44) rfl), x2, e109] <;> rfl
  have e111 : @Eq ((⟨Cert.KernelIdeal.S_, .i32⟩ : BufTy).Contents (Elt F)) (Φ₁ (Proc.devRef .tc Cert.KernelIdeal.main_c_506)) (Φ₂ (Proc.devRef .tc Cert.ReferenceIdeal.main_c_506)) := step0 (β := ((⟨Cert.KernelIdeal.S_, .i32⟩ : BufTy).Contents (Elt F))) (eq0 (at_ fa8 (i := 36) rfl) :) (eq0 (at_ fb1 (i := 45) rfl) :)
  have e112 : @Eq ((⟨Cert.KernelIdeal.S131072, .i32⟩ : BufTy).Contents (Elt F)) (Φ₁ (Proc.devRef .tc Cert.KernelIdeal.main_v1622)) (Φ₂ (Proc.devRef .tc Cert.ReferenceIdeal.main_v1632)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 46) rfl) :) e111
  have e113 : @Eq ((⟨Cert.KernelIdeal.S131072, .i1⟩ : BufTy).Contents (Elt F)) (Φ₁ (Proc.devRef .tc Cert.KernelIdeal.main_v1623)) (Φ₂ (Proc.devRef .tc Cert.ReferenceIdeal.main_v1633)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 47) rfl) :) e74 e112
  have e114 : @Eq ((⟨Cert.KernelIdeal.S_, .i32⟩ : BufTy).Contents (Elt F)) (Φ₁ (Proc.devRef .tc Cert.KernelIdeal.main_c_507)) (Φ₂ (Proc.devRef .tc Cert.ReferenceIdeal.main_c_507)) := step0 (β := ((⟨Cert.KernelIdeal.S_, .i32⟩ : BufTy).Contents (Elt F))) (eq0 (at_ fa8 (i := 39) rfl) :) (eq0 (at_ fb1 (i := 48) rfl) :)
  have e115 : @Eq ((⟨Cert.KernelIdeal.S131072, .i32⟩ : BufTy).Contents (Elt F)) (Φ₁ (Proc.devRef .tc Cert.KernelIdeal.main_v1624)) (Φ₂ (Proc.devRef .tc Cert.ReferenceIdeal.main_v1634)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 49) rfl) :) e114
  have e116 : @Eq ((⟨Cert.KernelIdeal.S131072, .i32⟩ : BufTy).Contents (Elt F)) (Φ₁ (Proc.devRef .tc Cert.KernelIdeal.main_v1625)) (Φ₂ (Proc.devRef .tc Cert.ReferenceIdeal.main_v1635)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 50) rfl) :) e74 e115
  have e117 : @Eq ((⟨Cert.KernelIdeal.S131072, .i32⟩ : BufTy).Contents (Elt F)) (Φ₁ (Proc.devRef .tc Cert.KernelIdeal.main_v1626)) (Φ₂ (Proc.devRef .tc Cert.ReferenceIdeal.main_v1636)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 51) rfl) :) e113 e116 e74
  have e118 : @Eq ((⟨Cert.KernelIdeal.S_, .i32⟩ : BufTy).Contents (Elt F)) (Φ₁ (Proc.devRef .tc Cert.KernelIdeal.main_c_508)) (Φ₂ (Proc.devRef .tc Cert.ReferenceIdeal.main_c_508)) := step0 (β := ((⟨Cert.KernelIdeal.S_, .i32⟩ : BufTy).Contents (Elt F))) (eq0 (at_ fa8 (i := 43) rfl) :) (eq0 (at_ fb1 (i := 52) rfl) :)
  have e119 : @Eq ((⟨Cert.KernelIdeal.S131072, .i32⟩ : BufTy).Contents (Elt F)) (Φ₁ (Proc.devRef .tc Cert.KernelIdeal.main_v1627)) (Φ₂ (Proc.devRef .tc Cert.ReferenceIdeal.main_v1637)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 53) rfl) :) e118
  have e120 : @Eq ((⟨Cert.KernelIdeal.S131072, .i1⟩ : BufTy).Contents (Elt F)) (Φ₁ (Proc.devRef .tc Cert.KernelIdeal.main_v1628)) (Φ₂ (Proc.devRef .tc Cert.ReferenceIdeal.main_v1638)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb1 (i := 54) rfl) :) e43 e119
  have e121 : @Eq ((⟨Cert.KernelIdeal.S_, .i32⟩ : BufTy).Contents (Elt F)) (Φ₁ (Proc.devRef .tc Cert.KernelIdeal.main_c_509)) (Φ₂ (Proc.devRef .tc Cert.ReferenceIdeal.main_c_509)) := step0 (β := ((⟨Cert.KernelIdeal.S_, .i32⟩ : BufTy).Contents (Elt F))) (eq0 (at_ fa8 (i := 46) rfl) :) (eq0 (at_ fb1 (i := 55) rfl) :)
  have e122 : @Eq ((⟨Cert.KernelIdeal.S131072, .i32⟩ : BufTy).Contents (Elt F)) (Φ₁ (Proc.devRef .tc Cert.KernelIdeal.main_v1629)) (Φ₂ (Proc.devRef .tc Cert.ReferenceIdeal.main_v1639)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb1 (i := 56) rfl) :) e121
  have e123 : @Eq ((⟨Cert.KernelIdeal.S131072, .i32⟩ : BufTy).Contents (Elt F)) (Φ₁ (Proc.devRef .tc Cert.KernelIdeal.main_v1630)) (Φ₂ (Proc.devRef .tc Cert.ReferenceIdeal.main_v1640)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb1 (i := 57) rfl) :) e43 e122
  have e124 : @Eq ((⟨Cert.KernelIdeal.S131072, .i32⟩ : BufTy).Contents (Elt F)) (Φ₁ (Proc.devRef .tc Cert.KernelIdeal.main_v1631)) (Φ₂ (Proc.devRef .tc Cert.ReferenceIdeal.main_v1641)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb1 (i := 58) rfl) :) e120 e123 e43
  have e125 : @Eq ((⟨Cert.KernelIdeal.S131072x1, .i32⟩ : BufTy).Contents (Elt F)) (Φ₁ (Proc.devRef .tc Cert.KernelIdeal.main_v1632)) (Φ₂ (Proc.devRef .tc Cert.ReferenceIdeal.main_v1642)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb1 (i := 59) rfl) :) e117
  have e126 : @Eq ((⟨Cert.KernelIdeal.S131072x1, .i32⟩ : BufTy).Contents (Elt F)) (Φ₁ (Proc.devRef .tc Cert.KernelIdeal.main_v1633)) (Φ₂ (Proc.devRef .tc Cert.ReferenceIdeal.main_v1643)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb1 (i := 60) rfl) :) e124
  have e127 : @Eq ((⟨Cert.KernelIdeal.S131072x2, .i32⟩ : BufTy).Contents (Elt F)) (Φ₁ (Proc.devRef .tc Cert.KernelIdeal.main_v1634)) (Φ₂ (Proc.devRef .tc Cert.ReferenceIdeal.main_v1644)) := by rw [eq2 (at_ fa8 (i := 52) rfl), eq2 (at_ fb1 (i := 61) rfl), e125, e126] <;> rfl
  have e128 : @Eq ((⟨Cert.KernelIdeal.S32x131072, .f32⟩ : BufTy).Contents (Elt F)) (Φ₁ (Proc.devRef .tc Cert.KernelIdeal.main_v1635)) (Φ₂ (Proc.devRef .tc Cert.ReferenceIdeal.main_v1645)) := by rw [eq2 (at_ fa8 (i := 53) rfl), eq2 (at_ fb1 (i := 62) rfl), x2, e127] <;> rfl
  have e129 : @Eq ((⟨Cert.KernelIdeal.S_, .i32⟩ : BufTy).Contents (Elt F)) (Φ₁ (Proc.devRef .tc Cert.KernelIdeal.main_c_510)) (Φ₂ (Proc.devRef .tc Cert.ReferenceIdeal.main_c_510)) := step0 (β := ((⟨Cert.KernelIdeal.S_, .i32⟩ : BufTy).Contents (Elt F))) (eq0 (at_ fa8 (i := 54) rfl) :) (eq0 (at_ fb1 (i := 63) rfl) :)
  have e130 : @Eq ((⟨Cert.KernelIdeal.S131072, .i32⟩ : BufTy).Contents (Elt F)) (Φ₁ (Proc.devRef .tc Cert.KernelIdeal.main_v1636)) (Φ₂ (Proc.devRef .tc Cert.ReferenceIdeal.main_v1646)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb1 (i := 64) rfl) :) e129
  have e131 : @Eq ((⟨Cert.KernelIdeal.S131072, .i1⟩ : BufTy).Contents (Elt F)) (Φ₁ (Proc.devRef .tc Cert.KernelIdeal.main_v1637)) (Φ₂ (Proc.devRef .tc Cert.ReferenceIdeal.main_v1647)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 0) rfl) :) e74 e130
  have e132 : @Eq ((⟨Cert.KernelIdeal.S_, .i32⟩ : BufTy).Contents (Elt F)) (Φ₁ (Proc.devRef .tc Cert.KernelIdeal.main_c_511)) (Φ₂ (Proc.devRef .tc Cert.ReferenceIdeal.main_c_511)) := step0 (β := ((⟨Cert.KernelIdeal.S_, .i32⟩ : BufTy).Contents (Elt F))) (eq0 (at_ fa8 (i := 57) rfl) :) (eq0 (at_ fb2 (i := 1) rfl) :)
  have e133 : @Eq ((⟨Cert.KernelIdeal.S131072, .i32⟩ : BufTy).Contents (Elt F)) (Φ₁ (Proc.devRef .tc Cert.KernelIdeal.main_v1638)) (Φ₂ (Proc.devRef .tc Cert.ReferenceIdeal.main_v1648)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 2) rfl) :) e132
  have e134 : @Eq ((⟨Cert.KernelIdeal.S131072, .i32⟩ : BufTy).Contents (Elt F)) (Φ₁ (Proc.devRef .tc Cert.KernelIdeal.main_v1639)) (Φ₂ (Proc.devRef .tc Cert.ReferenceIdeal.main_v1649)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 3) rfl) :) e74 e133
  have e135 : @Eq ((⟨Cert.KernelIdeal.S131072, .i32⟩ : BufTy).Contents (Elt F)) (Φ₁ (Proc.devRef .tc Cert.KernelIdeal.main_v1640)) (Φ₂ (Proc.devRef .tc Cert.ReferenceIdeal.main_v1650)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 4) rfl) :) e131 e134 e74
  have e136 : @Eq ((⟨Cert.KernelIdeal.S_, .i32⟩ : BufTy).Contents (Elt F)) (Φ₁ (Proc.devRef .tc Cert.KernelIdeal.main_c_512)) (Φ₂ (Proc.devRef .tc Cert.ReferenceIdeal.main_c_512)) := step0 (β := ((⟨Cert.KernelIdeal.S_, .i32⟩ : BufTy).Contents (Elt F))) (eq0 (at_ fa8 (i := 61) rfl) :) (eq0 (at_ fb2 (i := 5) rfl) :)
  have e137 : @Eq ((⟨Cert.KernelIdeal.S131072, .i32⟩ : BufTy).Contents (Elt F)) (Φ₁ (Proc.devRef .tc Cert.KernelIdeal.main_v1641)) (Φ₂ (Proc.devRef .tc Cert.ReferenceIdeal.main_v1651)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 6) rfl) :) e136
  have e138 : @Eq ((⟨Cert.KernelIdeal.S131072, .i1⟩ : BufTy).Contents (Elt F)) (Φ₁ (Proc.devRef .tc Cert.KernelIdeal.main_v1642)) (Φ₂ (Proc.devRef .tc Cert.ReferenceIdeal.main_v1652)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 7) rfl) :) e54 e137
  have e139 : @Eq ((⟨Cert.KernelIdeal.S_, .i32⟩ : BufTy).Contents (Elt F)) (Φ₁ (Proc.devRef .tc Cert.KernelIdeal.main_c_513)) (Φ₂ (Proc.devRef .tc Cert.ReferenceIdeal.main_c_513)) := step0 (β := ((⟨Cert.KernelIdeal.S_, .i32⟩ : BufTy).Contents (Elt F))) (eq0 (at_ fa8 (i := 64) rfl) :) (eq0 (at_ fb2 (i := 8) rfl) :)
  have e140 : @Eq ((⟨Cert.KernelIdeal.S131072, .i32⟩ : BufTy).Contents (Elt F)) (Φ₁ (Proc.devRef .tc Cert.KernelIdeal.main_v1643)) (Φ₂ (Proc.devRef .tc Cert.ReferenceIdeal.main_v1653)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 9) rfl) :) e139
  have e141 : @Eq ((⟨Cert.KernelIdeal.S131072, .i32⟩ : BufTy).Contents (Elt F)) (Φ₁ (Proc.devRef .tc Cert.KernelIdeal.main_v1644)) (Φ₂ (Proc.devRef .tc Cert.ReferenceIdeal.main_v1654)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 10) rfl) :) e54 e140
  have e142 : @Eq ((⟨Cert.KernelIdeal.S131072, .i32⟩ : BufTy).Contents (Elt F)) (Φ₁ (Proc.devRef .tc Cert.KernelIdeal.main_v1645)) (Φ₂ (Proc.devRef .tc Cert.ReferenceIdeal.main_v1655)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 11) rfl) :) e138 e141 e54
  have e143 : @Eq ((⟨Cert.KernelIdeal.S131072x1, .i32⟩ : BufTy).Contents (Elt F)) (Φ₁ (Proc.devRef .tc Cert.KernelIdeal.main_v1646)) (Φ₂ (Proc.devRef .tc Cert.ReferenceIdeal.main_v1656)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 12) rfl) :) e135
  have e144 : @Eq ((⟨Cert.KernelIdeal.S131072x1, .i32⟩ : BufTy).Contents (Elt F)) (Φ₁ (Proc.devRef .tc Cert.KernelIdeal.main_v1647)) (Φ₂ (Proc.devRef .tc Cert.ReferenceIdeal.main_v1657)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 13) rfl) :) e142
  have e145 : @Eq ((⟨Cert.KernelIdeal.S131072x2, .i32⟩ : BufTy).Contents (Elt F)) (Φ₁ (Proc.devRef .tc Cert.KernelIdeal.main_v1648)) (Φ₂ (Proc.devRef .tc Cert.ReferenceIdeal.main_v1658)) := by rw [eq2 (at_ fa8 (i := 70) rfl), eq2 (at_ fb2 (i := 14) rfl), e143, e144] <;> rfl
  have e146 : @Eq ((⟨Cert.KernelIdeal.S32x131072, .f32⟩ : BufTy).Contents (Elt F)) (Φ₁ (Proc.devRef .tc Cert.KernelIdeal.main_v1649)) (Φ₂ (Proc.devRef .tc Cert.ReferenceIdeal.main_v1659)) := by rw [eq2 (at_ fa8 (i := 71) rfl), eq2 (at_ fb2 (i := 15) rfl), x2, e145] <;> rfl
  have e147 : @Eq ((⟨Cert.KernelIdeal.S_, .f32⟩ : BufTy).Contents (Elt F)) (Φ₁ (Proc.devRef .tc Cert.KernelIdeal.main_cst_514)) (Φ₂ (Proc.devRef .tc Cert.ReferenceIdeal.main_cst_514)) := step0 (β := ((⟨Cert.KernelIdeal.S_, .f32⟩ : BufTy).Contents (Elt F))) (eq0 (at_ fa8 (i := 72) rfl) :) (eq0 (at_ fb2 (i := 16) rfl) :)
  have e148 : @Eq ((⟨Cert.KernelIdeal.S131072, .f32⟩ : BufTy).Contents (Elt F)) (Φ₁ (Proc.devRef .tc Cert.KernelIdeal.main_v1650)) (Φ₂ (Proc.devRef .tc Cert.ReferenceIdeal.main_v1660)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 17) rfl) :) e147
  have e149 : @Eq ((⟨Cert.KernelIdeal.S131072, .f32⟩ : BufTy).Contents (Elt F)) (Φ₁ (Proc.devRef .tc Cert.KernelIdeal.main_v1651)) (Φ₂ (Proc.devRef .tc Cert.ReferenceIdeal.main_v1661)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 18) rfl) :) e148 e33
  have e150 : @Eq ((⟨Cert.KernelIdeal.S1x131072, .f32⟩ : BufTy).Contents (Elt F)) (Φ₁ (Proc.devRef .tc Cert.KernelIdeal.main_v1652)) (Φ₂ (Proc.devRef .tc Cert.ReferenceIdeal.main_v1662)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 19) rfl) :) e149
  have e151 : @Eq ((⟨Cert.KernelIdeal.S32x131072, .f32⟩ : BufTy).Contents (Elt F)) (Φ₁ (Proc.devRef .tc Cert.KernelIdeal.main_v1653)) (Φ₂ (Proc.devRef .tc Cert.ReferenceIdeal.main_v1663)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 20) rfl) :) e150
  have e152 : @Eq ((⟨Cert.KernelIdeal.S32x131072, .f32⟩ : BufTy).Contents (Elt F)) (Φ₁ (Proc.devRef .tc Cert.KernelIdeal.main_v1654)) (Φ₂ (Proc.devRef .tc Cert.ReferenceIdeal.main_v1664)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 21) rfl) :) e92 e151
  have e153 : @Eq ((⟨Cert.KernelIdeal.S_, .f32⟩ : BufTy).Contents (Elt F)) (Φ₁ (Proc.devRef .tc Cert.KernelIdeal.main_cst_515)) (Φ₂ (Proc.devRef .tc Cert.ReferenceIdeal.main_cst_515)) := step0 (β := ((⟨Cert.KernelIdeal.S_, .f32⟩ : BufTy).Contents (Elt F))) (eq0 (at_ fa8 (i := 78) rfl) :) (eq0 (at_ fb2 (i := 22) rfl) :)
  have e154 : @Eq ((⟨Cert.KernelIdeal.S131072, .f32⟩ : BufTy).Contents (Elt F)) (Φ₁ (Proc.devRef .tc Cert.KernelIdeal.main_v1655)) (Φ₂ (Proc.devRef .tc Cert.ReferenceIdeal.main_v1665)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 23) rfl) :) e153
  have e155 : @Eq ((⟨Cert.KernelIdeal.S131072, .f32⟩ : BufTy).Contents (Elt F)) (Φ₁ (Proc.devRef .tc Cert.KernelIdeal.main_v1656)) (Φ₂ (Proc.devRef .tc Cert.ReferenceIdeal.main_v1666)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 24) rfl) :) e154 e34
  have e156 : @Eq ((⟨Cert.KernelIdeal.S1x131072, .f32⟩ : BufTy).Contents (Elt F)) (Φ₁ (Proc.devRef .tc Cert.KernelIdeal.main_v1657)) (Φ₂ (Proc.devRef .tc Cert.ReferenceIdeal.main_v1667)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 25) rfl) :) e155
  have e157 : @Eq ((⟨Cert.KernelIdeal.S32x131072, .f32⟩ : BufTy).Contents (Elt F)) (Φ₁ (Proc.devRef .tc Cert.KernelIdeal.main_v1658)) (Φ₂ (Proc.devRef .tc Cert.ReferenceIdeal.main_v1668)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 26) rfl) :) e156
  have e158 : @Eq ((⟨Cert.KernelIdeal.S32x131072, .f32⟩ : BufTy).Contents (Elt F)) (Φ₁ (Proc.devRef .tc Cert.KernelIdeal.main_v1659)) (Φ₂ (Proc.devRef .tc Cert.ReferenceIdeal.main_v1669)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 27) rfl) :) e152 e157
  have e159 : @Eq ((⟨Cert.KernelIdeal.S1x131072, .f32⟩ : BufTy).Contents (Elt F)) (Φ₁ (Proc.devRef .tc Cert.KernelIdeal.main_v1660)) (Φ₂ (Proc.devRef .tc Cert.ReferenceIdeal.main_v1670)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 28) rfl) :) e33
  have e160 : @Eq ((⟨Cert.KernelIdeal.S32x131072, .f32⟩ : BufTy).Contents (Elt F)) (Φ₁ (Proc.devRef .tc Cert.KernelIdeal.main_v1661)) (Φ₂ (Proc.devRef .tc Cert.ReferenceIdeal.main_v1671)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 29) rfl) :) e159
  have e161 : @Eq ((⟨Cert.KernelIdeal.S32x131072, .f32⟩ : BufTy).Contents (Elt F)) (Φ₁ (Proc.devRef .tc Cert.KernelIdeal.main_v1662)) (Φ₂ (Proc.devRef .tc Cert.ReferenceIdeal.main_v1672)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 30) rfl) :) e110 e160
  have e162 : @Eq ((⟨Cert.KernelIdeal.S_, .f32⟩ : BufTy).Contents (Elt F)) (Φ₁ (Proc.devRef .tc Cert.KernelIdeal.main_cst_516)) (Φ₂ (Proc.devRef .tc Cert.ReferenceIdeal.main_cst_516)) := step0 (β := ((⟨Cert.KernelIdeal.S_, .f32⟩ : BufTy).Contents (Elt F))) (eq0 (at_ fa8 (i := 87) rfl) :) (eq0 (at_ fb2 (i := 31) rfl) :)
  have e163 : @Eq ((⟨Cert.KernelIdeal.S131072, .f32⟩ : BufTy).Contents (Elt F)) (Φ₁ (Proc.devRef .tc Cert.KernelIdeal.main_v1663)) (Φ₂ (Proc.devRef .tc Cert.ReferenceIdeal.main_v1673)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 32) rfl) :) e162
  have e164 : @Eq ((⟨Cert.KernelIdeal.S131072, .f32⟩ : BufTy).Contents (Elt F)) (Φ₁ (Proc.devRef .tc Cert.KernelIdeal.main_v1664)) (Φ₂ (Proc.devRef .tc Cert.ReferenceIdeal.main_v1674)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 33) rfl) :) e163 e34
  have e165 : @Eq ((⟨Cert.KernelIdeal.S1x131072, .f32⟩ : BufTy).Contents (Elt F)) (Φ₁ (Proc.devRef .tc Cert.KernelIdeal.main_v1665)) (Φ₂ (Proc.devRef .tc Cert.ReferenceIdeal.main_v1675)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 34) rfl) :) e164
  have e166 : @Eq ((⟨Cert.KernelIdeal.S32x131072, .f32⟩ : BufTy).Contents (Elt F)) (Φ₁ (Proc.devRef .tc Cert.KernelIdeal.main_v1666)) (Φ₂ (Proc.devRef .tc Cert.ReferenceIdeal.main_v1676)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 35) rfl) :) e165
  have e167 : @Eq ((⟨Cert.KernelIdeal.S32x131072, .f32⟩ : BufTy).Contents (Elt F)) (Φ₁ (Proc.devRef .tc Cert.KernelIdeal.main_v1667)) (Φ₂ (Proc.devRef .tc Cert.ReferenceIdeal.main_v1677)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 36) rfl) :) e161 e166
  have e168 : @Eq ((⟨Cert.KernelIdeal.S32x131072, .f32⟩ : BufTy).Contents (Elt F)) (Φ₁ (Proc.devRef .tc Cert.KernelIdeal.main_v1668)) (Φ₂ (Proc.devRef .tc Cert.ReferenceIdeal.main_v1678)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 37) rfl) :) e158 e167
  have e169 : @Eq ((⟨Cert.KernelIdeal.S_, .f32⟩ : BufTy).Contents (Elt F)) (Φ₁ (Proc.devRef .tc Cert.KernelIdeal.main_cst_517)) (Φ₂ (Proc.devRef .tc Cert.ReferenceIdeal.main_cst_517)) := step0 (β := ((⟨Cert.KernelIdeal.S_, .f32⟩ : BufTy).Contents (Elt F))) (eq0 (at_ fa8 (i := 94) rfl) :) (eq0 (at_ fb2 (i := 38) rfl) :)
  have e170 : @Eq ((⟨Cert.KernelIdeal.S131072, .f32⟩ : BufTy).Contents (Elt F)) (Φ₁ (Proc.devRef .tc Cert.KernelIdeal.main_v1669)) (Φ₂ (Proc.devRef .tc Cert.ReferenceIdeal.main_v1679)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 39) rfl) :) e169
  have e171 : @Eq ((⟨Cert.KernelIdeal.S131072, .f32⟩ : BufTy).Contents (Elt F)) (Φ₁ (Proc.devRef .tc Cert.KernelIdeal.main_v1670)) (Φ₂ (Proc.devRef .tc Cert.ReferenceIdeal.main_v1680)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 40) rfl) :) e170 e33
  have e172 : @Eq ((⟨Cert.KernelIdeal.S1x131072, .f32⟩ : BufTy).Contents (Elt F)) (Φ₁ (Proc.devRef .tc Cert.KernelIdeal.main_v1671)) (Φ₂ (Proc.devRef .tc Cert.ReferenceIdeal.main_v1681)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 41) rfl) :) e171
  have e173 : @Eq ((⟨Cert.KernelIdeal.S32x131072, .f32⟩ : BufTy).Contents (Elt F)) (Φ₁ (Proc.devRef .tc Cert.KernelIdeal.main_v1672)) (Φ₂ (Proc.devRef .tc Cert.ReferenceIdeal.main_v1682)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 42) rfl) :) e172
  have e174 : @Eq ((⟨Cert.KernelIdeal.S32x131072, .f32⟩ : BufTy).Contents (Elt F)) (Φ₁ (Proc.devRef .tc Cert.KernelIdeal.main_v1673)) (Φ₂ (Proc.devRef .tc Cert.ReferenceIdeal.main_v1683)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 43) rfl) :) e128 e173
  have e175 : @Eq ((⟨Cert.KernelIdeal.S1x131072, .f32⟩ : BufTy).Contents (Elt F)) (Φ₁ (Proc.devRef .tc Cert.KernelIdeal.main_v1674)) (Φ₂ (Proc.devRef .tc Cert.ReferenceIdeal.main_v1684)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 44) rfl) :) e34
  have e176 : @Eq ((⟨Cert.KernelIdeal.S32x131072, .f32⟩ : BufTy).Contents (Elt F)) (Φ₁ (Proc.devRef .tc Cert.KernelIdeal.main_v1675)) (Φ₂ (Proc.devRef .tc Cert.ReferenceIdeal.main_v1685)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 45) rfl) :) e175
  have e177 : @Eq ((⟨Cert.KernelIdeal.S32x131072, .f32⟩ : BufTy).Contents (Elt F)) (Φ₁ (Proc.devRef .tc Cert.KernelIdeal.main_v1676)) (Φ₂ (Proc.devRef .tc Cert.ReferenceIdeal.main_v1686)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 46) rfl) :) e174 e176
  have e178 : @Eq ((⟨Cert.KernelIdeal.S32x131072, .f32⟩ : BufTy).Contents (Elt F)) (Φ₁ (Proc.devRef .tc Cert.KernelIdeal.main_v1677)) (Φ₂ (Proc.devRef .tc Cert.ReferenceIdeal.main_v1687)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 47) rfl) :) e168 e177
  have e179 : @Eq ((⟨Cert.KernelIdeal.S1x131072, .f32⟩ : BufTy).Contents (Elt F)) (Φ₁ (Proc.devRef .tc Cert.KernelIdeal.main_v1678)) (Φ₂ (Proc.devRef .tc Cert.ReferenceIdeal.main_v1688)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 48) rfl) :) e33
  have e180 : @Eq ((⟨Cert.KernelIdeal.S32x131072, .f32⟩ : BufTy).Contents (Elt F)) (Φ₁ (Proc.devRef .tc Cert.KernelIdeal.main_v1679)) (Φ₂ (Proc.devRef .tc Cert.ReferenceIdeal.main_v1689)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb2 (i := 49) rfl) :) e179
  have e181 : @Eq ((⟨Cert.KernelIdeal.S32x131072, .f32⟩ : BufTy).Contents (Elt F)) (Φ₁ (Proc.devRef .tc Cert.KernelIdeal.main_v1680)) (Φ₂ (Proc.devRef .tc Cert.ReferenceIdeal.main_v1690)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb2 (i := 50) rfl) :) e146 e180
  have e182 : @Eq ((⟨Cert.KernelIdeal.S1x131072, .f32⟩ : BufTy).Contents (Elt F)) (Φ₁ (Proc.devRef .tc Cert.KernelIdeal.main_v1681)) (Φ₂ (Proc.devRef .tc Cert.ReferenceIdeal.main_v1691)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb2 (i := 51) rfl) :) e34
  have e183 : @Eq ((⟨Cert.KernelIdeal.S32x131072, .f32⟩ : BufTy).Contents (Elt F)) (Φ₁ (Proc.devRef .tc Cert.KernelIdeal.main_v1682)) (Φ₂ (Proc.devRef .tc Cert.ReferenceIdeal.main_v1692)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb2 (i := 52) rfl) :) e182
  have e184 : @Eq ((⟨Cert.KernelIdeal.S32x131072, .f32⟩ : BufTy).Contents (Elt F)) (Φ₁ (Proc.devRef .tc Cert.KernelIdeal.main_v1683)) (Φ₂ (Proc.devRef .tc Cert.ReferenceIdeal.main_v1693)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb2 (i := 53) rfl) :) e181 e183
  have e185 : @Eq ((⟨Cert.KernelIdeal.S32x131072, .f32⟩ : BufTy).Contents (Elt F)) (Φ₁ (Proc.devRef .tc Cert.KernelIdeal.main_v1684)) (Φ₂ (Proc.devRef .tc Cert.ReferenceIdeal.main_v1694)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb2 (i := 54) rfl) :) e178 e184
  have e186 : @Eq ((⟨Cert.KernelIdeal.S131072x32, .f32⟩ : BufTy).Contents (Elt F)) (Φ₁ (Proc.devRef .tc Cert.KernelIdeal.main_v1685)) (Φ₂ (Proc.devRef .tc Cert.ReferenceIdeal.main_v1695)) := by rw [eq1 (at_ fa8 (i := 111) rfl), eq1 (at_ fb2 (i := 55) rfl), e185] <;> rfl
  exact e186

end Cert.Bridge

end
-- ==== Proof.SimB13.lean ====
/- Operations 2466 … 2652 of the one program and 2476 … 2662 of the other apply the same functions to corresponding
   buffers. If both programs' final contents satisfy their own lines' equations and agree on the buffers these operations
   read from outside, they agree on what these operations write: one congruence per operation, in program order. -/
import proofs.«133805_j10187662426200_2_alg».proof.Proof.KIStretch2
import proofs.«133805_j10187662426200_2_alg».proof.Proof.RefOps4
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B13 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_104 : List (HloOp Cert.KernelIdeal.τ Cert.KernelIdeal.sig (Elt F))).Forall fun op => ∀ b ∈ op.writes, Φ₁ b = op.result Φ₁ b)
    (fa1 : (Cert.KernelIdeal.Gen.hostOps0_105 : List (HloOp Cert.KernelIdeal.τ Cert.KernelIdeal.sig (Elt F))).Forall fun op => ∀ b ∈ op.writes, Φ₁ b = op.result Φ₁ b)
    (fa2 : (Cert.KernelIdeal.Gen.hostOps0_106 : List (HloOp Cert.KernelIdeal.τ Cert.KernelIdeal.sig (Elt F))).Forall fun op => ∀ b ∈ op.writes, Φ₁ b = op.result Φ₁ b)
    (fa3 : (Cert.KernelIdeal.Gen.hostOps0_107 : List (HloOp Cert.KernelIdeal.τ Cert.KernelIdeal.sig (Elt F))).Forall fun op => ∀ b ∈ op.writes, Φ₁ b = op.result Φ₁ b)
    (fa4 : (Cert.KernelIdeal.Gen.hostOps0_108 : List (HloOp Cert.KernelIdeal.τ Cert.KernelIdeal.sig (Elt F))).Forall fun op => ∀ b ∈ op.writes, Φ₁ b = op.result Φ₁ b)
    (fa5 : (Cert.KernelIdeal.Gen.hostOps0_109 : List (HloOp Cert.KernelIdeal.τ Cert.KernelIdeal.sig (Elt F))).Forall fun op => ∀ b ∈ op.writes, Φ₁ b = op.result Φ₁ b)
    (fa6 : (Cert.KernelIdeal.Gen.hostOps0_110 : List (HloOp Cert.KernelIdeal.τ Cert.KernelIdeal.sig (Elt F))).Forall fun op => ∀ b ∈ op.writes, Φ₁ b = op.result Φ₁ b)
    (fa7 : (Cert.KernelIdeal.Gen.hostOps0_111 : List (HloOp Cert.KernelIdeal.τ Cert.KernelIdeal.sig (Elt F))).Forall fun op => ∀ b ∈ op.writes, Φ₁ b = op.result Φ₁ b)
    (fa8 : (Cert.KernelIdeal.Gen.hostOps0_112 : List (HloOp Cert.KernelIdeal.τ Cert.KernelIdeal.sig (Elt F))).Forall fun op => ∀ b ∈ op.writes, Φ₁ b = op.result Φ₁ b)
    (fb0 : (Cert.ReferenceIdeal.Ops.w36 : List (HloOp Cert.ReferenceIdeal.τ Cert.ReferenceIdeal.sig (Elt F))).Forall fun op => ∀ b ∈ op.writes, Φ₂ b = op.result Φ₂ b)
    (fb1 : (Cert.ReferenceIdeal.Ops.w37 : List (HloOp Cert.ReferenceIdeal.τ Cert.ReferenceIdeal.sig (Elt F))).Forall fun op => ∀ b ∈ op.writes, Φ₂ b = op.result Φ₂ b)
    (fb2 : (Cert.ReferenceIdeal.Ops.w38 : List (HloOp Cert.ReferenceIdeal.τ Cert.ReferenceIdeal.sig (Elt F))).Forall fun op => ∀ b ∈ op.writes, Φ₂ b = op.result Φ₂ b)
    (fb3 : (Cert.ReferenceIdeal.Ops.w39 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_12)) (Φ₂ (Proc.devRef .tc Cert.ReferenceIdeal.main_c_12)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x256x256, .f32⟩ : BufTy).Contents (Elt F)) (Φ₁ (Proc.devRef .tc Cert.KernelIdeal.main_arg15)) (Φ₂ (Proc.devRef .tc Cert.ReferenceIdeal.main_arg15)))
    : @Eq ((⟨Cert.KernelIdeal.S131072x32, .f32⟩ : BufTy).Contents (Elt F)) (Φ₁ (Proc.devRef .tc Cert.KernelIdeal.main_v1814)) (Φ₂ (Proc.devRef .tc Cert.ReferenceIdeal.main_v1824)) := by
  have e0 : @Eq ((⟨Cert.KernelIdeal.S_, .i32⟩ : BufTy).Contents (Elt F)) (Φ₁ (Proc.devRef .tc Cert.KernelIdeal.main_c_518)) (Φ₂ (Proc.devRef .tc Cert.ReferenceIdeal.main_c_518)) := step0 (β := ((⟨Cert.KernelIdeal.S_, .i32⟩ : BufTy).Contents (Elt F))) (eq0 (at_ fa0 (i := 112) rfl) :) (eq0 (at_ fb0 (i := 56) rfl) :)
  have e1 : @Eq ((⟨Cert.KernelIdeal.S2, .i32⟩ : BufTy).Contents (Elt F)) (Φ₁ (Proc.devRef .tc Cert.KernelIdeal.main_v1686)) (Φ₂ (Proc.devRef .tc Cert.ReferenceIdeal.main_v1696)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 57) rfl) :) e0
  have e2 : @Eq ((⟨Cert.KernelIdeal.S2, .i1⟩ : BufTy).Contents (Elt F)) (Φ₁ (Proc.devRef .tc Cert.KernelIdeal.main_v1687)) (Φ₂ (Proc.devRef .tc Cert.ReferenceIdeal.main_v1697)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 58) rfl) :) x0 e1
  have e3 : @Eq ((⟨Cert.KernelIdeal.S_, .i32⟩ : BufTy).Contents (Elt F)) (Φ₁ (Proc.devRef .tc Cert.KernelIdeal.main_c_519)) (Φ₂ (Proc.devRef .tc Cert.ReferenceIdeal.main_c_519)) := step0 (β := ((⟨Cert.KernelIdeal.S_, .i32⟩ : BufTy).Contents (Elt F))) (eq0 (at_ fa0 (i := 115) rfl) :) (eq0 (at_ fb0 (i := 59) rfl) :)
  have e4 : @Eq ((⟨Cert.KernelIdeal.S2, .i32⟩ : BufTy).Contents (Elt F)) (Φ₁ (Proc.devRef .tc Cert.KernelIdeal.main_v1688)) (Φ₂ (Proc.devRef .tc Cert.ReferenceIdeal.main_v1698)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb1 (i := 0) rfl) :) e3
  have e5 : @Eq ((⟨Cert.KernelIdeal.S2, .i32⟩ : BufTy).Contents (Elt F)) (Φ₁ (Proc.devRef .tc Cert.KernelIdeal.main_v1689)) (Φ₂ (Proc.devRef .tc Cert.ReferenceIdeal.main_v1699)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb1 (i := 1) rfl) :) x0 e4
  have e6 : @Eq ((⟨Cert.KernelIdeal.S2, .i32⟩ : BufTy).Contents (Elt F)) (Φ₁ (Proc.devRef .tc Cert.KernelIdeal.main_v1690)) (Φ₂ (Proc.devRef .tc Cert.ReferenceIdeal.main_v1700)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb1 (i := 2) rfl) :) e2 e5 x0
  have e7 : @Eq ((⟨Cert.KernelIdeal.S2x1, .i32⟩ : BufTy).Contents (Elt F)) (Φ₁ (Proc.devRef .tc Cert.KernelIdeal.main_v1691)) (Φ₂ (Proc.devRef .tc Cert.ReferenceIdeal.main_v1701)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb1 (i := 3) rfl) :) e6
  have e8 : @Eq ((⟨Cert.KernelIdeal.S131072x2, .f32⟩ : BufTy).Contents (Elt F)) (Φ₁ (Proc.devRef .tc Cert.KernelIdeal.main_v1692)) (Φ₂ (Proc.devRef .tc Cert.ReferenceIdeal.main_v1702)) := by rw [eq2 (at_ fa0 (i := 120) rfl), eq2 (at_ fb1 (i := 4) rfl), x1, e7] <;> rfl
  have e9 : @Eq ((⟨Cert.KernelIdeal.S131072x1, .f32⟩ : BufTy).Contents (Elt F)) (Φ₁ (Proc.devRef .tc Cert.KernelIdeal.main_v1693)) (Φ₂ (Proc.devRef .tc Cert.ReferenceIdeal.main_v1703)) := by rw [eq1 (at_ fa0 (i := 121) rfl), eq1 (at_ fb1 (i := 5) rfl), e8] <;> rfl
  have e10 : @Eq ((⟨Cert.KernelIdeal.S131072, .f32⟩ : BufTy).Contents (Elt F)) (Φ₁ (Proc.devRef .tc Cert.KernelIdeal.main_v1694)) (Φ₂ (Proc.devRef .tc Cert.ReferenceIdeal.main_v1704)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb1 (i := 6) rfl) :) e9
  have e11 : @Eq ((⟨Cert.KernelIdeal.S_, .f32⟩ : BufTy).Contents (Elt F)) (Φ₁ (Proc.devRef .tc Cert.KernelIdeal.main_cst_520)) (Φ₂ (Proc.devRef .tc Cert.ReferenceIdeal.main_cst_520)) := step0 (β := ((⟨Cert.KernelIdeal.S_, .f32⟩ : BufTy).Contents (Elt F))) (eq0 (at_ fa0 (i := 123) rfl) :) (eq0 (at_ fb1 (i := 7) rfl) :)
  have e12 : @Eq ((⟨Cert.KernelIdeal.S131072, .f32⟩ : BufTy).Contents (Elt F)) (Φ₁ (Proc.devRef .tc Cert.KernelIdeal.main_v1695)) (Φ₂ (Proc.devRef .tc Cert.ReferenceIdeal.main_v1705)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb1 (i := 8) rfl) :) e11
  have e13 : @Eq ((⟨Cert.KernelIdeal.S131072, .f32⟩ : BufTy).Contents (Elt F)) (Φ₁ (Proc.devRef .tc Cert.KernelIdeal.main_v1696)) (Φ₂ (Proc.devRef .tc Cert.ReferenceIdeal.main_v1706)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb1 (i := 9) rfl) :) e10 e12
  have e14 : @Eq ((⟨Cert.KernelIdeal.S_, .f32⟩ : BufTy).Contents (Elt F)) (Φ₁ (Proc.devRef .tc Cert.KernelIdeal.main_cst_521)) (Φ₂ (Proc.devRef .tc Cert.ReferenceIdeal.main_cst_521)) := step0 (β := ((⟨Cert.KernelIdeal.S_, .f32⟩ : BufTy).Contents (Elt F))) (eq0 (at_ fa0 (i := 126) rfl) :) (eq0 (at_ fb1 (i := 10) rfl) :)
  have e15 : @Eq ((⟨Cert.KernelIdeal.S131072, .f32⟩ : BufTy).Contents (Elt F)) (Φ₁ (Proc.devRef .tc Cert.KernelIdeal.main_v1697)) (Φ₂ (Proc.devRef .tc Cert.ReferenceIdeal.main_v1707)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 11) rfl) :) e14
  have e16 : @Eq ((⟨Cert.KernelIdeal.S131072, .f32⟩ : BufTy).Contents (Elt F)) (Φ₁ (Proc.devRef .tc Cert.KernelIdeal.main_v1698)) (Φ₂ (Proc.devRef .tc Cert.ReferenceIdeal.main_v1708)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 12) rfl) :) e13 e15
  have e17 : @Eq ((⟨Cert.KernelIdeal.S_, .f32⟩ : BufTy).Contents (Elt F)) (Φ₁ (Proc.devRef .tc Cert.KernelIdeal.main_cst_522)) (Φ₂ (Proc.devRef .tc Cert.ReferenceIdeal.main_cst_522)) := step0 (β := ((⟨Cert.KernelIdeal.S_, .f32⟩ : BufTy).Contents (Elt F))) (eq0 (at_ fa0 (i := 129) rfl) :) (eq0 (at_ fb1 (i := 13) rfl) :)
  have e18 : @Eq ((⟨Cert.KernelIdeal.S131072, .f32⟩ : BufTy).Contents (Elt F)) (Φ₁ (Proc.devRef .tc Cert.KernelIdeal.main_v1699)) (Φ₂ (Proc.devRef .tc Cert.ReferenceIdeal.main_v1709)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 14) rfl) :) e17
  have e19 : @Eq ((⟨Cert.KernelIdeal.S131072, .f32⟩ : BufTy).Contents (Elt F)) (Φ₁ (Proc.devRef .tc Cert.KernelIdeal.main_v1700)) (Φ₂ (Proc.devRef .tc Cert.ReferenceIdeal.main_v1710)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 15) rfl) :) e16 e18
  have e20 : @Eq ((⟨Cert.KernelIdeal.S131072x1, .f32⟩ : BufTy).Contents (Elt F)) (Φ₁ (Proc.devRef .tc Cert.KernelIdeal.main_v1701)) (Φ₂ (Proc.devRef .tc Cert.ReferenceIdeal.main_v1711)) := by rw [eq1 (at_ fa0 (i := 132) rfl), eq1 (at_ fb1 (i := 16) rfl), e8] <;> rfl
  have e21 : @Eq ((⟨Cert.KernelIdeal.S131072, .f32⟩ : BufTy).Contents (Elt F)) (Φ₁ (Proc.devRef .tc Cert.KernelIdeal.main_v1702)) (Φ₂ (Proc.devRef .tc Cert.ReferenceIdeal.main_v1712)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 17) rfl) :) e20
  have e22 : @Eq ((⟨Cert.KernelIdeal.S_, .f32⟩ : BufTy).Contents (Elt F)) (Φ₁ (Proc.devRef .tc Cert.KernelIdeal.main_cst_523)) (Φ₂ (Proc.devRef .tc Cert.ReferenceIdeal.main_cst_523)) := step0 (β := ((⟨Cert.KernelIdeal.S_, .f32⟩ : BufTy).Contents (Elt F))) (eq0 (at_ fa0 (i := 134) rfl) :) (eq0 (at_ fb1 (i := 18) rfl) :)
  have e23 : @Eq ((⟨Cert.KernelIdeal.S131072, .f32⟩ : BufTy).Contents (Elt F)) (Φ₁ (Proc.devRef .tc Cert.KernelIdeal.main_v1703)) (Φ₂ (Proc.devRef .tc Cert.ReferenceIdeal.main_v1713)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 19) rfl) :) e22
  have e24 : @Eq ((⟨Cert.KernelIdeal.S131072, .f32⟩ : BufTy).Contents (Elt F)) (Φ₁ (Proc.devRef .tc Cert.KernelIdeal.main_v1704)) (Φ₂ (Proc.devRef .tc Cert.ReferenceIdeal.main_v1714)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 20) rfl) :) e21 e23
  have e25 : @Eq ((⟨Cert.KernelIdeal.S_, .f32⟩ : BufTy).Contents (Elt F)) (Φ₁ (Proc.devRef .tc Cert.KernelIdeal.main_cst_524)) (Φ₂ (Proc.devRef .tc Cert.ReferenceIdeal.main_cst_524)) := step0 (β := ((⟨Cert.KernelIdeal.S_, .f32⟩ : BufTy).Contents (Elt F))) (eq0 (at_ fa0 (i := 137) rfl) :) (eq0 (at_ fb1 (i := 21) rfl) :)
  have e26 : @Eq ((⟨Cert.KernelIdeal.S131072, .f32⟩ : BufTy).Contents (Elt F)) (Φ₁ (Proc.devRef .tc Cert.KernelIdeal.main_v1705)) (Φ₂ (Proc.devRef .tc Cert.ReferenceIdeal.main_v1715)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 22) rfl) :) e25
  have e27 : @Eq ((⟨Cert.KernelIdeal.S131072, .f32⟩ : BufTy).Contents (Elt F)) (Φ₁ (Proc.devRef .tc Cert.KernelIdeal.main_v1706)) (Φ₂ (Proc.devRef .tc Cert.ReferenceIdeal.main_v1716)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 23) rfl) :) e24 e26
  have e28 : @Eq ((⟨Cert.KernelIdeal.S_, .f32⟩ : BufTy).Contents (Elt F)) (Φ₁ (Proc.devRef .tc Cert.KernelIdeal.main_cst_525)) (Φ₂ (Proc.devRef .tc Cert.ReferenceIdeal.main_cst_525)) := step0 (β := ((⟨Cert.KernelIdeal.S_, .f32⟩ : BufTy).Contents (Elt F))) (eq0 (at_ fa0 (i := 140) rfl) :) (eq0 (at_ fb1 (i := 24) rfl) :)
  have e29 : @Eq ((⟨Cert.KernelIdeal.S131072, .f32⟩ : BufTy).Contents (Elt F)) (Φ₁ (Proc.devRef .tc Cert.KernelIdeal.main_v1707)) (Φ₂ (Proc.devRef .tc Cert.ReferenceIdeal.main_v1717)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 25) rfl) :) e28
  have e30 : @Eq ((⟨Cert.KernelIdeal.S131072, .f32⟩ : BufTy).Contents (Elt F)) (Φ₁ (Proc.devRef .tc Cert.KernelIdeal.main_v1708)) (Φ₂ (Proc.devRef .tc Cert.ReferenceIdeal.main_v1718)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 26) rfl) :) e27 e29
  have e31 : @Eq ((⟨Cert.KernelIdeal.S131072, .f32⟩ : BufTy).Contents (Elt F)) (Φ₁ (Proc.devRef .tc Cert.KernelIdeal.main_v1709)) (Φ₂ (Proc.devRef .tc Cert.ReferenceIdeal.main_v1719)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 27) rfl) :) e19
  have e32 : @Eq ((⟨Cert.KernelIdeal.S131072, .f32⟩ : BufTy).Contents (Elt F)) (Φ₁ (Proc.devRef .tc Cert.KernelIdeal.main_v1710)) (Φ₂ (Proc.devRef .tc Cert.ReferenceIdeal.main_v1720)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 28) rfl) :) e30
  have e33 : @Eq ((⟨Cert.KernelIdeal.S131072, .f32⟩ : BufTy).Contents (Elt F)) (Φ₁ (Proc.devRef .tc Cert.KernelIdeal.main_v1711)) (Φ₂ (Proc.devRef .tc Cert.ReferenceIdeal.main_v1721)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 29) rfl) :) e19 e31
  have e34 : @Eq ((⟨Cert.KernelIdeal.S131072, .f32⟩ : BufTy).Contents (Elt F)) (Φ₁ (Proc.devRef .tc Cert.KernelIdeal.main_v1712)) (Φ₂ (Proc.devRef .tc Cert.ReferenceIdeal.main_v1722)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 30) rfl) :) e30 e32
  have e35 : @Eq ((⟨Cert.KernelIdeal.S131072, .i32⟩ : BufTy).Contents (Elt F)) (Φ₁ (Proc.devRef .tc Cert.KernelIdeal.main_v1713)) (Φ₂ (Proc.devRef .tc Cert.ReferenceIdeal.main_v1723)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 31) rfl) :) e31
  have e36 : @Eq ((⟨Cert.KernelIdeal.S_, .i32⟩ : BufTy).Contents (Elt F)) (Φ₁ (Proc.devRef .tc Cert.KernelIdeal.main_c_526)) (Φ₂ (Proc.devRef .tc Cert.ReferenceIdeal.main_c_526)) := step0 (β := ((⟨Cert.KernelIdeal.S_, .i32⟩ : BufTy).Contents (Elt F))) (eq0 (at_ fa0 (i := 148) rfl) :) (eq0 (at_ fb1 (i := 32) rfl) :)
  have e37 : @Eq ((⟨Cert.KernelIdeal.S_, .i32⟩ : BufTy).Contents (Elt F)) (Φ₁ (Proc.devRef .tc Cert.KernelIdeal.main_c_527)) (Φ₂ (Proc.devRef .tc Cert.ReferenceIdeal.main_c_527)) := step0 (β := ((⟨Cert.KernelIdeal.S_, .i32⟩ : BufTy).Contents (Elt F))) (eq0 (at_ fa0 (i := 149) rfl) :) (eq0 (at_ fb1 (i := 33) rfl) :)
  have e38 : @Eq ((⟨Cert.KernelIdeal.S_, .i32⟩ : BufTy).Contents (Elt F)) (Φ₁ (Proc.devRef .tc Cert.KernelIdeal.main_call52_v0)) (Φ₂ (Proc.devRef .tc Cert.ReferenceIdeal.main_call52_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 34) rfl) :) e36
  have e39 : @Eq ((⟨Cert.KernelIdeal.S131072, .i32⟩ : BufTy).Contents (Elt F)) (Φ₁ (Proc.devRef .tc Cert.KernelIdeal.main_call52_v1)) (Φ₂ (Proc.devRef .tc Cert.ReferenceIdeal.main_call52_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 35) rfl) :) e38
  have e40 : @Eq ((⟨Cert.KernelIdeal.S131072, .i32⟩ : BufTy).Contents (Elt F)) (Φ₁ (Proc.devRef .tc Cert.KernelIdeal.main_call52_v2)) (Φ₂ (Proc.devRef .tc Cert.ReferenceIdeal.main_call52_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 36) rfl) :) e39 e35
  have e41 : @Eq ((⟨Cert.KernelIdeal.S_, .i32⟩ : BufTy).Contents (Elt F)) (Φ₁ (Proc.devRef .tc Cert.KernelIdeal.main_call52_v3)) (Φ₂ (Proc.devRef .tc Cert.ReferenceIdeal.main_call52_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 37) rfl) :) e37
  have e42 : @Eq ((⟨Cert.KernelIdeal.S131072, .i32⟩ : BufTy).Contents (Elt F)) (Φ₁ (Proc.devRef .tc Cert.KernelIdeal.main_call52_v4)) (Φ₂ (Proc.devRef .tc Cert.ReferenceIdeal.main_call52_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 38) rfl) :) e41
  have e43 : @Eq ((⟨Cert.KernelIdeal.S131072, .i32⟩ : BufTy).Contents (Elt F)) (Φ₁ (Proc.devRef .tc Cert.KernelIdeal.main_v1714)) (Φ₂ (Proc.devRef .tc Cert.ReferenceIdeal.main_v1724)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 39) rfl) :) e42 e40
  have e44 : @Eq ((⟨Cert.KernelIdeal.S_, .i32⟩ : BufTy).Contents (Elt F)) (Φ₁ (Proc.devRef .tc Cert.KernelIdeal.main_c_528)) (Φ₂ (Proc.devRef .tc Cert.ReferenceIdeal.main_c_528)) := step0 (β := ((⟨Cert.KernelIdeal.S_, .i32⟩ : BufTy).Contents (Elt F))) (eq0 (at_ fa2 (i := 0) rfl) :) (eq0 (at_ fb1 (i := 40) rfl) :)
  have e45 : @Eq ((⟨Cert.KernelIdeal.S131072, .i32⟩ : BufTy).Contents (Elt F)) (Φ₁ (Proc.devRef .tc Cert.KernelIdeal.main_v1715)) (Φ₂ (Proc.devRef .tc Cert.ReferenceIdeal.main_v1725)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 41) rfl) :) e44
  have e46 : @Eq ((⟨Cert.KernelIdeal.S131072, .i32⟩ : BufTy).Contents (Elt F)) (Φ₁ (Proc.devRef .tc Cert.KernelIdeal.main_v1716)) (Φ₂ (Proc.devRef .tc Cert.ReferenceIdeal.main_v1726)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 42) rfl) :) e43 e45
  have e47 : @Eq ((⟨Cert.KernelIdeal.S_, .i32⟩ : BufTy).Contents (Elt F)) (Φ₁ (Proc.devRef .tc Cert.KernelIdeal.main_c_529)) (Φ₂ (Proc.devRef .tc Cert.ReferenceIdeal.main_c_529)) := step0 (β := ((⟨Cert.KernelIdeal.S_, .i32⟩ : BufTy).Contents (Elt F))) (eq0 (at_ fa2 (i := 3) rfl) :) (eq0 (at_ fb1 (i := 43) rfl) :)
  have e48 : @Eq ((⟨Cert.KernelIdeal.S_, .i32⟩ : BufTy).Contents (Elt F)) (Φ₁ (Proc.devRef .tc Cert.KernelIdeal.main_c_530)) (Φ₂ (Proc.devRef .tc Cert.ReferenceIdeal.main_c_530)) := step0 (β := ((⟨Cert.KernelIdeal.S_, .i32⟩ : BufTy).Contents (Elt F))) (eq0 (at_ fa2 (i := 4) rfl) :) (eq0 (at_ fb1 (i := 44) rfl) :)
  have e49 : @Eq ((⟨Cert.KernelIdeal.S_, .i32⟩ : BufTy).Contents (Elt F)) (Φ₁ (Proc.devRef .tc Cert.KernelIdeal.main_call53_v0)) (Φ₂ (Proc.devRef .tc Cert.ReferenceIdeal.main_call53_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 45) rfl) :) e47
  have e50 : @Eq ((⟨Cert.KernelIdeal.S131072, .i32⟩ : BufTy).Contents (Elt F)) (Φ₁ (Proc.devRef .tc Cert.KernelIdeal.main_call53_v1)) (Φ₂ (Proc.devRef .tc Cert.ReferenceIdeal.main_call53_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 46) rfl) :) e49
  have e51 : @Eq ((⟨Cert.KernelIdeal.S131072, .i32⟩ : BufTy).Contents (Elt F)) (Φ₁ (Proc.devRef .tc Cert.KernelIdeal.main_call53_v2)) (Φ₂ (Proc.devRef .tc Cert.ReferenceIdeal.main_call53_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 47) rfl) :) e50 e46
  have e52 : @Eq ((⟨Cert.KernelIdeal.S_, .i32⟩ : BufTy).Contents (Elt F)) (Φ₁ (Proc.devRef .tc Cert.KernelIdeal.main_call53_v3)) (Φ₂ (Proc.devRef .tc Cert.ReferenceIdeal.main_call53_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 48) rfl) :) e48
  have e53 : @Eq ((⟨Cert.KernelIdeal.S131072, .i32⟩ : BufTy).Contents (Elt F)) (Φ₁ (Proc.devRef .tc Cert.KernelIdeal.main_call53_v4)) (Φ₂ (Proc.devRef .tc Cert.ReferenceIdeal.main_call53_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 49) rfl) :) e52
  have e54 : @Eq ((⟨Cert.KernelIdeal.S131072, .i32⟩ : BufTy).Contents (Elt F)) (Φ₁ (Proc.devRef .tc Cert.KernelIdeal.main_v1717)) (Φ₂ (Proc.devRef .tc Cert.ReferenceIdeal.main_v1727)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 50) rfl) :) e53 e51
  have e55 : @Eq ((⟨Cert.KernelIdeal.S131072, .i32⟩ : BufTy).Contents (Elt F)) (Φ₁ (Proc.devRef .tc Cert.KernelIdeal.main_v1718)) (Φ₂ (Proc.devRef .tc Cert.ReferenceIdeal.main_v1728)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 51) rfl) :) e32
  have e56 : @Eq ((⟨Cert.KernelIdeal.S_, .i32⟩ : BufTy).Contents (Elt F)) (Φ₁ (Proc.devRef .tc Cert.KernelIdeal.main_c_531)) (Φ₂ (Proc.devRef .tc Cert.ReferenceIdeal.main_c_531)) := step0 (β := ((⟨Cert.KernelIdeal.S_, .i32⟩ : BufTy).Contents (Elt F))) (eq0 (at_ fa4 (i := 1) rfl) :) (eq0 (at_ fb1 (i := 52) rfl) :)
  have e57 : @Eq ((⟨Cert.KernelIdeal.S_, .i32⟩ : BufTy).Contents (Elt F)) (Φ₁ (Proc.devRef .tc Cert.KernelIdeal.main_c_532)) (Φ₂ (Proc.devRef .tc Cert.ReferenceIdeal.main_c_532)) := step0 (β := ((⟨Cert.KernelIdeal.S_, .i32⟩ : BufTy).Contents (Elt F))) (eq0 (at_ fa4 (i := 2) rfl) :) (eq0 (at_ fb1 (i := 53) rfl) :)
  have e58 : @Eq ((⟨Cert.KernelIdeal.S_, .i32⟩ : BufTy).Contents (Elt F)) (Φ₁ (Proc.devRef .tc Cert.KernelIdeal.main_call54_v0)) (Φ₂ (Proc.devRef .tc Cert.ReferenceIdeal.main_call54_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 54) rfl) :) e56
  have e59 : @Eq ((⟨Cert.KernelIdeal.S131072, .i32⟩ : BufTy).Contents (Elt F)) (Φ₁ (Proc.devRef .tc Cert.KernelIdeal.main_call54_v1)) (Φ₂ (Proc.devRef .tc Cert.ReferenceIdeal.main_call54_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 55) rfl) :) e58
  have e60 : @Eq ((⟨Cert.KernelIdeal.S131072, .i32⟩ : BufTy).Contents (Elt F)) (Φ₁ (Proc.devRef .tc Cert.KernelIdeal.main_call54_v2)) (Φ₂ (Proc.devRef .tc Cert.ReferenceIdeal.main_call54_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 56) rfl) :) e59 e55
  have e61 : @Eq ((⟨Cert.KernelIdeal.S_, .i32⟩ : BufTy).Contents (Elt F)) (Φ₁ (Proc.devRef .tc Cert.KernelIdeal.main_call54_v3)) (Φ₂ (Proc.devRef .tc Cert.ReferenceIdeal.main_call54_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 57) rfl) :) e57
  have e62 : @Eq ((⟨Cert.KernelIdeal.S131072, .i32⟩ : BufTy).Contents (Elt F)) (Φ₁ (Proc.devRef .tc Cert.KernelIdeal.main_call54_v4)) (Φ₂ (Proc.devRef .tc Cert.ReferenceIdeal.main_call54_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 58) rfl) :) e61
  have e63 : @Eq ((⟨Cert.KernelIdeal.S131072, .i32⟩ : BufTy).Contents (Elt F)) (Φ₁ (Proc.devRef .tc Cert.KernelIdeal.main_v1719)) (Φ₂ (Proc.devRef .tc Cert.ReferenceIdeal.main_v1729)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 59) rfl) :) e62 e60
  have e64 : @Eq ((⟨Cert.KernelIdeal.S_, .i32⟩ : BufTy).Contents (Elt F)) (Φ₁ (Proc.devRef .tc Cert.KernelIdeal.main_c_533)) (Φ₂ (Proc.devRef .tc Cert.ReferenceIdeal.main_c_533)) := step0 (β := ((⟨Cert.KernelIdeal.S_, .i32⟩ : BufTy).Contents (Elt F))) (eq0 (at_ fa6 (i := 0) rfl) :) (eq0 (at_ fb1 (i := 60) rfl) :)
  have e65 : @Eq ((⟨Cert.KernelIdeal.S131072, .i32⟩ : BufTy).Contents (Elt F)) (Φ₁ (Proc.devRef .tc Cert.KernelIdeal.main_v1720)) (Φ₂ (Proc.devRef .tc Cert.ReferenceIdeal.main_v1730)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 61) rfl) :) e64
  have e66 : @Eq ((⟨Cert.KernelIdeal.S131072, .i32⟩ : BufTy).Contents (Elt F)) (Φ₁ (Proc.devRef .tc Cert.KernelIdeal.main_v1721)) (Φ₂ (Proc.devRef .tc Cert.ReferenceIdeal.main_v1731)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 62) rfl) :) e63 e65
  have e67 : @Eq ((⟨Cert.KernelIdeal.S_, .i32⟩ : BufTy).Contents (Elt F)) (Φ₁ (Proc.devRef .tc Cert.KernelIdeal.main_c_534)) (Φ₂ (Proc.devRef .tc Cert.ReferenceIdeal.main_c_534)) := step0 (β := ((⟨Cert.KernelIdeal.S_, .i32⟩ : BufTy).Contents (Elt F))) (eq0 (at_ fa6 (i := 3) rfl) :) (eq0 (at_ fb1 (i := 63) rfl) :)
  have e68 : @Eq ((⟨Cert.KernelIdeal.S_, .i32⟩ : BufTy).Contents (Elt F)) (Φ₁ (Proc.devRef .tc Cert.KernelIdeal.main_c_535)) (Φ₂ (Proc.devRef .tc Cert.ReferenceIdeal.main_c_535)) := step0 (β := ((⟨Cert.KernelIdeal.S_, .i32⟩ : BufTy).Contents (Elt F))) (eq0 (at_ fa6 (i := 4) rfl) :) (eq0 (at_ fb1 (i := 64) rfl) :)
  have e69 : @Eq ((⟨Cert.KernelIdeal.S_, .i32⟩ : BufTy).Contents (Elt F)) (Φ₁ (Proc.devRef .tc Cert.KernelIdeal.main_call55_v0)) (Φ₂ (Proc.devRef .tc Cert.ReferenceIdeal.main_call55_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 65) rfl) :) e67
  have e70 : @Eq ((⟨Cert.KernelIdeal.S131072, .i32⟩ : BufTy).Contents (Elt F)) (Φ₁ (Proc.devRef .tc Cert.KernelIdeal.main_call55_v1)) (Φ₂ (Proc.devRef .tc Cert.ReferenceIdeal.main_call55_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 66) rfl) :) e69
  have e71 : @Eq ((⟨Cert.KernelIdeal.S131072, .i32⟩ : BufTy).Contents (Elt F)) (Φ₁ (Proc.devRef .tc Cert.KernelIdeal.main_call55_v2)) (Φ₂ (Proc.devRef .tc Cert.ReferenceIdeal.main_call55_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 67) rfl) :) e70 e66
  have e72 : @Eq ((⟨Cert.KernelIdeal.S_, .i32⟩ : BufTy).Contents (Elt F)) (Φ₁ (Proc.devRef .tc Cert.KernelIdeal.main_call55_v3)) (Φ₂ (Proc.devRef .tc Cert.ReferenceIdeal.main_call55_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 68) rfl) :) e68
  have e73 : @Eq ((⟨Cert.KernelIdeal.S131072, .i32⟩ : BufTy).Contents (Elt F)) (Φ₁ (Proc.devRef .tc Cert.KernelIdeal.main_call55_v4)) (Φ₂ (Proc.devRef .tc Cert.ReferenceIdeal.main_call55_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 69) rfl) :) e72
  have e74 : @Eq ((⟨Cert.KernelIdeal.S131072, .i32⟩ : BufTy).Contents (Elt F)) (Φ₁ (Proc.devRef .tc Cert.KernelIdeal.main_v1722)) (Φ₂ (Proc.devRef .tc Cert.ReferenceIdeal.main_v1732)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 70) rfl) :) e73 e71
  have e75 : @Eq ((⟨Cert.KernelIdeal.S_, .i32⟩ : BufTy).Contents (Elt F)) (Φ₁ (Proc.devRef .tc Cert.KernelIdeal.main_c_536)) (Φ₂ (Proc.devRef .tc Cert.ReferenceIdeal.main_c_536)) := step0 (β := ((⟨Cert.KernelIdeal.S_, .i32⟩ : BufTy).Contents (Elt F))) (eq0 (at_ fa8 (i := 0) rfl) :) (eq0 (at_ fb1 (i := 71) rfl) :)
  have e76 : @Eq ((⟨Cert.KernelIdeal.S131072, .i32⟩ : BufTy).Contents (Elt F)) (Φ₁ (Proc.devRef .tc Cert.KernelIdeal.main_v1723)) (Φ₂ (Proc.devRef .tc Cert.ReferenceIdeal.main_v1733)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 72) rfl) :) e75
  have e77 : @Eq ((⟨Cert.KernelIdeal.S131072, .i1⟩ : BufTy).Contents (Elt F)) (Φ₁ (Proc.devRef .tc Cert.KernelIdeal.main_v1724)) (Φ₂ (Proc.devRef .tc Cert.ReferenceIdeal.main_v1734)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 73) rfl) :) e63 e76
  have e78 : @Eq ((⟨Cert.KernelIdeal.S_, .i32⟩ : BufTy).Contents (Elt F)) (Φ₁ (Proc.devRef .tc Cert.KernelIdeal.main_c_537)) (Φ₂ (Proc.devRef .tc Cert.ReferenceIdeal.main_c_537)) := step0 (β := ((⟨Cert.KernelIdeal.S_, .i32⟩ : BufTy).Contents (Elt F))) (eq0 (at_ fa8 (i := 3) rfl) :) (eq0 (at_ fb1 (i := 74) rfl) :)
  have e79 : @Eq ((⟨Cert.KernelIdeal.S131072, .i32⟩ : BufTy).Contents (Elt F)) (Φ₁ (Proc.devRef .tc Cert.KernelIdeal.main_v1725)) (Φ₂ (Proc.devRef .tc Cert.ReferenceIdeal.main_v1735)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 75) rfl) :) e78
  have e80 : @Eq ((⟨Cert.KernelIdeal.S131072, .i32⟩ : BufTy).Contents (Elt F)) (Φ₁ (Proc.devRef .tc Cert.KernelIdeal.main_v1726)) (Φ₂ (Proc.devRef .tc Cert.ReferenceIdeal.main_v1736)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 76) rfl) :) e63 e79
  have e81 : @Eq ((⟨Cert.KernelIdeal.S131072, .i32⟩ : BufTy).Contents (Elt F)) (Φ₁ (Proc.devRef .tc Cert.KernelIdeal.main_v1727)) (Φ₂ (Proc.devRef .tc Cert.ReferenceIdeal.main_v1737)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 77) rfl) :) e77 e80 e63
  have e82 : @Eq ((⟨Cert.KernelIdeal.S_, .i32⟩ : BufTy).Contents (Elt F)) (Φ₁ (Proc.devRef .tc Cert.KernelIdeal.main_c_538)) (Φ₂ (Proc.devRef .tc Cert.ReferenceIdeal.main_c_538)) := step0 (β := ((⟨Cert.KernelIdeal.S_, .i32⟩ : BufTy).Contents (Elt F))) (eq0 (at_ fa8 (i := 7) rfl) :) (eq0 (at_ fb1 (i := 78) rfl) :)
  have e83 : @Eq ((⟨Cert.KernelIdeal.S131072, .i32⟩ : BufTy).Contents (Elt F)) (Φ₁ (Proc.devRef .tc Cert.KernelIdeal.main_v1728)) (Φ₂ (Proc.devRef .tc Cert.ReferenceIdeal.main_v1738)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 79) rfl) :) e82
  have e84 : @Eq ((⟨Cert.KernelIdeal.S131072, .i1⟩ : BufTy).Contents (Elt F)) (Φ₁ (Proc.devRef .tc Cert.KernelIdeal.main_v1729)) (Φ₂ (Proc.devRef .tc Cert.ReferenceIdeal.main_v1739)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb2 (i := 0) rfl) :) e43 e83
  have e85 : @Eq ((⟨Cert.KernelIdeal.S_, .i32⟩ : BufTy).Contents (Elt F)) (Φ₁ (Proc.devRef .tc Cert.KernelIdeal.main_c_539)) (Φ₂ (Proc.devRef .tc Cert.ReferenceIdeal.main_c_539)) := step0 (β := ((⟨Cert.KernelIdeal.S_, .i32⟩ : BufTy).Contents (Elt F))) (eq0 (at_ fa8 (i := 10) rfl) :) (eq0 (at_ fb2 (i := 1) rfl) :)
  have e86 : @Eq ((⟨Cert.KernelIdeal.S131072, .i32⟩ : BufTy).Contents (Elt F)) (Φ₁ (Proc.devRef .tc Cert.KernelIdeal.main_v1730)) (Φ₂ (Proc.devRef .tc Cert.ReferenceIdeal.main_v1740)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb2 (i := 2) rfl) :) e85
  have e87 : @Eq ((⟨Cert.KernelIdeal.S131072, .i32⟩ : BufTy).Contents (Elt F)) (Φ₁ (Proc.devRef .tc Cert.KernelIdeal.main_v1731)) (Φ₂ (Proc.devRef .tc Cert.ReferenceIdeal.main_v1741)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb2 (i := 3) rfl) :) e43 e86
  have e88 : @Eq ((⟨Cert.KernelIdeal.S131072, .i32⟩ : BufTy).Contents (Elt F)) (Φ₁ (Proc.devRef .tc Cert.KernelIdeal.main_v1732)) (Φ₂ (Proc.devRef .tc Cert.ReferenceIdeal.main_v1742)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb2 (i := 4) rfl) :) e84 e87 e43
  have e89 : @Eq ((⟨Cert.KernelIdeal.S131072x1, .i32⟩ : BufTy).Contents (Elt F)) (Φ₁ (Proc.devRef .tc Cert.KernelIdeal.main_v1733)) (Φ₂ (Proc.devRef .tc Cert.ReferenceIdeal.main_v1743)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb2 (i := 5) rfl) :) e81
  have e90 : @Eq ((⟨Cert.KernelIdeal.S131072x1, .i32⟩ : BufTy).Contents (Elt F)) (Φ₁ (Proc.devRef .tc Cert.KernelIdeal.main_v1734)) (Φ₂ (Proc.devRef .tc Cert.ReferenceIdeal.main_v1744)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb2 (i := 6) rfl) :) e88
  have e91 : @Eq ((⟨Cert.KernelIdeal.S131072x2, .i32⟩ : BufTy).Contents (Elt F)) (Φ₁ (Proc.devRef .tc Cert.KernelIdeal.main_v1735)) (Φ₂ (Proc.devRef .tc Cert.ReferenceIdeal.main_v1745)) := by rw [eq2 (at_ fa8 (i := 16) rfl), eq2 (at_ fb2 (i := 7) rfl), e89, e90] <;> rfl
  have e92 : @Eq ((⟨Cert.KernelIdeal.S32x131072, .f32⟩ : BufTy).Contents (Elt F)) (Φ₁ (Proc.devRef .tc Cert.KernelIdeal.main_v1736)) (Φ₂ (Proc.devRef .tc Cert.ReferenceIdeal.main_v1746)) := by rw [eq2 (at_ fa8 (i := 17) rfl), eq2 (at_ fb2 (i := 8) rfl), x2, e91] <;> rfl
  have e93 : @Eq ((⟨Cert.KernelIdeal.S_, .i32⟩ : BufTy).Contents (Elt F)) (Φ₁ (Proc.devRef .tc Cert.KernelIdeal.main_c_540)) (Φ₂ (Proc.devRef .tc Cert.ReferenceIdeal.main_c_540)) := step0 (β := ((⟨Cert.KernelIdeal.S_, .i32⟩ : BufTy).Contents (Elt F))) (eq0 (at_ fa8 (i := 18) rfl) :) (eq0 (at_ fb2 (i := 9) rfl) :)
  have e94 : @Eq ((⟨Cert.KernelIdeal.S131072, .i32⟩ : BufTy).Contents (Elt F)) (Φ₁ (Proc.devRef .tc Cert.KernelIdeal.main_v1737)) (Φ₂ (Proc.devRef .tc Cert.ReferenceIdeal.main_v1747)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb2 (i := 10) rfl) :) e93
  have e95 : @Eq ((⟨Cert.KernelIdeal.S131072, .i1⟩ : BufTy).Contents (Elt F)) (Φ₁ (Proc.devRef .tc Cert.KernelIdeal.main_v1738)) (Φ₂ (Proc.devRef .tc Cert.ReferenceIdeal.main_v1748)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 11) rfl) :) e63 e94
  have e96 : @Eq ((⟨Cert.KernelIdeal.S_, .i32⟩ : BufTy).Contents (Elt F)) (Φ₁ (Proc.devRef .tc Cert.KernelIdeal.main_c_541)) (Φ₂ (Proc.devRef .tc Cert.ReferenceIdeal.main_c_541)) := step0 (β := ((⟨Cert.KernelIdeal.S_, .i32⟩ : BufTy).Contents (Elt F))) (eq0 (at_ fa8 (i := 21) rfl) :) (eq0 (at_ fb2 (i := 12) rfl) :)
  have e97 : @Eq ((⟨Cert.KernelIdeal.S131072, .i32⟩ : BufTy).Contents (Elt F)) (Φ₁ (Proc.devRef .tc Cert.KernelIdeal.main_v1739)) (Φ₂ (Proc.devRef .tc Cert.ReferenceIdeal.main_v1749)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 13) rfl) :) e96
  have e98 : @Eq ((⟨Cert.KernelIdeal.S131072, .i32⟩ : BufTy).Contents (Elt F)) (Φ₁ (Proc.devRef .tc Cert.KernelIdeal.main_v1740)) (Φ₂ (Proc.devRef .tc Cert.ReferenceIdeal.main_v1750)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 14) rfl) :) e63 e97
  have e99 : @Eq ((⟨Cert.KernelIdeal.S131072, .i32⟩ : BufTy).Contents (Elt F)) (Φ₁ (Proc.devRef .tc Cert.KernelIdeal.main_v1741)) (Φ₂ (Proc.devRef .tc Cert.ReferenceIdeal.main_v1751)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 15) rfl) :) e95 e98 e63
  have e100 : @Eq ((⟨Cert.KernelIdeal.S_, .i32⟩ : BufTy).Contents (Elt F)) (Φ₁ (Proc.devRef .tc Cert.KernelIdeal.main_c_542)) (Φ₂ (Proc.devRef .tc Cert.ReferenceIdeal.main_c_542)) := step0 (β := ((⟨Cert.KernelIdeal.S_, .i32⟩ : BufTy).Contents (Elt F))) (eq0 (at_ fa8 (i := 25) rfl) :) (eq0 (at_ fb2 (i := 16) rfl) :)
  have e101 : @Eq ((⟨Cert.KernelIdeal.S131072, .i32⟩ : BufTy).Contents (Elt F)) (Φ₁ (Proc.devRef .tc Cert.KernelIdeal.main_v1742)) (Φ₂ (Proc.devRef .tc Cert.ReferenceIdeal.main_v1752)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 17) rfl) :) e100
  have e102 : @Eq ((⟨Cert.KernelIdeal.S131072, .i1⟩ : BufTy).Contents (Elt F)) (Φ₁ (Proc.devRef .tc Cert.KernelIdeal.main_v1743)) (Φ₂ (Proc.devRef .tc Cert.ReferenceIdeal.main_v1753)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 18) rfl) :) e54 e101
  have e103 : @Eq ((⟨Cert.KernelIdeal.S_, .i32⟩ : BufTy).Contents (Elt F)) (Φ₁ (Proc.devRef .tc Cert.KernelIdeal.main_c_543)) (Φ₂ (Proc.devRef .tc Cert.ReferenceIdeal.main_c_543)) := step0 (β := ((⟨Cert.KernelIdeal.S_, .i32⟩ : BufTy).Contents (Elt F))) (eq0 (at_ fa8 (i := 28) rfl) :) (eq0 (at_ fb2 (i := 19) rfl) :)
  have e104 : @Eq ((⟨Cert.KernelIdeal.S131072, .i32⟩ : BufTy).Contents (Elt F)) (Φ₁ (Proc.devRef .tc Cert.KernelIdeal.main_v1744)) (Φ₂ (Proc.devRef .tc Cert.ReferenceIdeal.main_v1754)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 20) rfl) :) e103
  have e105 : @Eq ((⟨Cert.KernelIdeal.S131072, .i32⟩ : BufTy).Contents (Elt F)) (Φ₁ (Proc.devRef .tc Cert.KernelIdeal.main_v1745)) (Φ₂ (Proc.devRef .tc Cert.ReferenceIdeal.main_v1755)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 21) rfl) :) e54 e104
  have e106 : @Eq ((⟨Cert.KernelIdeal.S131072, .i32⟩ : BufTy).Contents (Elt F)) (Φ₁ (Proc.devRef .tc Cert.KernelIdeal.main_v1746)) (Φ₂ (Proc.devRef .tc Cert.ReferenceIdeal.main_v1756)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 22) rfl) :) e102 e105 e54
  have e107 : @Eq ((⟨Cert.KernelIdeal.S131072x1, .i32⟩ : BufTy).Contents (Elt F)) (Φ₁ (Proc.devRef .tc Cert.KernelIdeal.main_v1747)) (Φ₂ (Proc.devRef .tc Cert.ReferenceIdeal.main_v1757)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 23) rfl) :) e99
  have e108 : @Eq ((⟨Cert.KernelIdeal.S131072x1, .i32⟩ : BufTy).Contents (Elt F)) (Φ₁ (Proc.devRef .tc Cert.KernelIdeal.main_v1748)) (Φ₂ (Proc.devRef .tc Cert.ReferenceIdeal.main_v1758)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 24) rfl) :) e106
  have e109 : @Eq ((⟨Cert.KernelIdeal.S131072x2, .i32⟩ : BufTy).Contents (Elt F)) (Φ₁ (Proc.devRef .tc Cert.KernelIdeal.main_v1749)) (Φ₂ (Proc.devRef .tc Cert.ReferenceIdeal.main_v1759)) := by rw [eq2 (at_ fa8 (i := 34) rfl), eq2 (at_ fb2 (i := 25) rfl), e107, e108] <;> rfl
  have e110 : @Eq ((⟨Cert.KernelIdeal.S32x131072, .f32⟩ : BufTy).Contents (Elt F)) (Φ₁ (Proc.devRef .tc Cert.KernelIdeal.main_v1750)) (Φ₂ (Proc.devRef .tc Cert.ReferenceIdeal.main_v1760)) := by rw [eq2 (at_ fa8 (i := 35) rfl), eq2 (at_ fb2 (i := 26) rfl), x2, e109] <;> rfl
  have e111 : @Eq ((⟨Cert.KernelIdeal.S_, .i32⟩ : BufTy).Contents (Elt F)) (Φ₁ (Proc.devRef .tc Cert.KernelIdeal.main_c_544)) (Φ₂ (Proc.devRef .tc Cert.ReferenceIdeal.main_c_544)) := step0 (β := ((⟨Cert.KernelIdeal.S_, .i32⟩ : BufTy).Contents (Elt F))) (eq0 (at_ fa8 (i := 36) rfl) :) (eq0 (at_ fb2 (i := 27) rfl) :)
  have e112 : @Eq ((⟨Cert.KernelIdeal.S131072, .i32⟩ : BufTy).Contents (Elt F)) (Φ₁ (Proc.devRef .tc Cert.KernelIdeal.main_v1751)) (Φ₂ (Proc.devRef .tc Cert.ReferenceIdeal.main_v1761)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 28) rfl) :) e111
  have e113 : @Eq ((⟨Cert.KernelIdeal.S131072, .i1⟩ : BufTy).Contents (Elt F)) (Φ₁ (Proc.devRef .tc Cert.KernelIdeal.main_v1752)) (Φ₂ (Proc.devRef .tc Cert.ReferenceIdeal.main_v1762)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 29) rfl) :) e74 e112
  have e114 : @Eq ((⟨Cert.KernelIdeal.S_, .i32⟩ : BufTy).Contents (Elt F)) (Φ₁ (Proc.devRef .tc Cert.KernelIdeal.main_c_545)) (Φ₂ (Proc.devRef .tc Cert.ReferenceIdeal.main_c_545)) := step0 (β := ((⟨Cert.KernelIdeal.S_, .i32⟩ : BufTy).Contents (Elt F))) (eq0 (at_ fa8 (i := 39) rfl) :) (eq0 (at_ fb2 (i := 30) rfl) :)
  have e115 : @Eq ((⟨Cert.KernelIdeal.S131072, .i32⟩ : BufTy).Contents (Elt F)) (Φ₁ (Proc.devRef .tc Cert.KernelIdeal.main_v1753)) (Φ₂ (Proc.devRef .tc Cert.ReferenceIdeal.main_v1763)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 31) rfl) :) e114
  have e116 : @Eq ((⟨Cert.KernelIdeal.S131072, .i32⟩ : BufTy).Contents (Elt F)) (Φ₁ (Proc.devRef .tc Cert.KernelIdeal.main_v1754)) (Φ₂ (Proc.devRef .tc Cert.ReferenceIdeal.main_v1764)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 32) rfl) :) e74 e115
  have e117 : @Eq ((⟨Cert.KernelIdeal.S131072, .i32⟩ : BufTy).Contents (Elt F)) (Φ₁ (Proc.devRef .tc Cert.KernelIdeal.main_v1755)) (Φ₂ (Proc.devRef .tc Cert.ReferenceIdeal.main_v1765)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 33) rfl) :) e113 e116 e74
  have e118 : @Eq ((⟨Cert.KernelIdeal.S_, .i32⟩ : BufTy).Contents (Elt F)) (Φ₁ (Proc.devRef .tc Cert.KernelIdeal.main_c_546)) (Φ₂ (Proc.devRef .tc Cert.ReferenceIdeal.main_c_546)) := step0 (β := ((⟨Cert.KernelIdeal.S_, .i32⟩ : BufTy).Contents (Elt F))) (eq0 (at_ fa8 (i := 43) rfl) :) (eq0 (at_ fb2 (i := 34) rfl) :)
  have e119 : @Eq ((⟨Cert.KernelIdeal.S131072, .i32⟩ : BufTy).Contents (Elt F)) (Φ₁ (Proc.devRef .tc Cert.KernelIdeal.main_v1756)) (Φ₂ (Proc.devRef .tc Cert.ReferenceIdeal.main_v1766)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 35) rfl) :) e118
  have e120 : @Eq ((⟨Cert.KernelIdeal.S131072, .i1⟩ : BufTy).Contents (Elt F)) (Φ₁ (Proc.devRef .tc Cert.KernelIdeal.main_v1757)) (Φ₂ (Proc.devRef .tc Cert.ReferenceIdeal.main_v1767)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 36) rfl) :) e43 e119
  have e121 : @Eq ((⟨Cert.KernelIdeal.S_, .i32⟩ : BufTy).Contents (Elt F)) (Φ₁ (Proc.devRef .tc Cert.KernelIdeal.main_c_547)) (Φ₂ (Proc.devRef .tc Cert.ReferenceIdeal.main_c_547)) := step0 (β := ((⟨Cert.KernelIdeal.S_, .i32⟩ : BufTy).Contents (Elt F))) (eq0 (at_ fa8 (i := 46) rfl) :) (eq0 (at_ fb2 (i := 37) rfl) :)
  have e122 : @Eq ((⟨Cert.KernelIdeal.S131072, .i32⟩ : BufTy).Contents (Elt F)) (Φ₁ (Proc.devRef .tc Cert.KernelIdeal.main_v1758)) (Φ₂ (Proc.devRef .tc Cert.ReferenceIdeal.main_v1768)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 38) rfl) :) e121
  have e123 : @Eq ((⟨Cert.KernelIdeal.S131072, .i32⟩ : BufTy).Contents (Elt F)) (Φ₁ (Proc.devRef .tc Cert.KernelIdeal.main_v1759)) (Φ₂ (Proc.devRef .tc Cert.ReferenceIdeal.main_v1769)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 39) rfl) :) e43 e122
  have e124 : @Eq ((⟨Cert.KernelIdeal.S131072, .i32⟩ : BufTy).Contents (Elt F)) (Φ₁ (Proc.devRef .tc Cert.KernelIdeal.main_v1760)) (Φ₂ (Proc.devRef .tc Cert.ReferenceIdeal.main_v1770)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 40) rfl) :) e120 e123 e43
  have e125 : @Eq ((⟨Cert.KernelIdeal.S131072x1, .i32⟩ : BufTy).Contents (Elt F)) (Φ₁ (Proc.devRef .tc Cert.KernelIdeal.main_v1761)) (Φ₂ (Proc.devRef .tc Cert.ReferenceIdeal.main_v1771)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 41) rfl) :) e117
  have e126 : @Eq ((⟨Cert.KernelIdeal.S131072x1, .i32⟩ : BufTy).Contents (Elt F)) (Φ₁ (Proc.devRef .tc Cert.KernelIdeal.main_v1762)) (Φ₂ (Proc.devRef .tc Cert.ReferenceIdeal.main_v1772)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 42) rfl) :) e124
  have e127 : @Eq ((⟨Cert.KernelIdeal.S131072x2, .i32⟩ : BufTy).Contents (Elt F)) (Φ₁ (Proc.devRef .tc Cert.KernelIdeal.main_v1763)) (Φ₂ (Proc.devRef .tc Cert.ReferenceIdeal.main_v1773)) := by rw [eq2 (at_ fa8 (i := 52) rfl), eq2 (at_ fb2 (i := 43) rfl), e125, e126] <;> rfl
  have e128 : @Eq ((⟨Cert.KernelIdeal.S32x131072, .f32⟩ : BufTy).Contents (Elt F)) (Φ₁ (Proc.devRef .tc Cert.KernelIdeal.main_v1764)) (Φ₂ (Proc.devRef .tc Cert.ReferenceIdeal.main_v1774)) := by rw [eq2 (at_ fa8 (i := 53) rfl), eq2 (at_ fb2 (i := 44) rfl), x2, e127] <;> rfl
  have e129 : @Eq ((⟨Cert.KernelIdeal.S_, .i32⟩ : BufTy).Contents (Elt F)) (Φ₁ (Proc.devRef .tc Cert.KernelIdeal.main_c_548)) (Φ₂ (Proc.devRef .tc Cert.ReferenceIdeal.main_c_548)) := step0 (β := ((⟨Cert.KernelIdeal.S_, .i32⟩ : BufTy).Contents (Elt F))) (eq0 (at_ fa8 (i := 54) rfl) :) (eq0 (at_ fb2 (i := 45) rfl) :)
  have e130 : @Eq ((⟨Cert.KernelIdeal.S131072, .i32⟩ : BufTy).Contents (Elt F)) (Φ₁ (Proc.devRef .tc Cert.KernelIdeal.main_v1765)) (Φ₂ (Proc.devRef .tc Cert.ReferenceIdeal.main_v1775)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 46) rfl) :) e129
  have e131 : @Eq ((⟨Cert.KernelIdeal.S131072, .i1⟩ : BufTy).Contents (Elt F)) (Φ₁ (Proc.devRef .tc Cert.KernelIdeal.main_v1766)) (Φ₂ (Proc.devRef .tc Cert.ReferenceIdeal.main_v1776)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 47) rfl) :) e74 e130
  have e132 : @Eq ((⟨Cert.KernelIdeal.S_, .i32⟩ : BufTy).Contents (Elt F)) (Φ₁ (Proc.devRef .tc Cert.KernelIdeal.main_c_549)) (Φ₂ (Proc.devRef .tc Cert.ReferenceIdeal.main_c_549)) := step0 (β := ((⟨Cert.KernelIdeal.S_, .i32⟩ : BufTy).Contents (Elt F))) (eq0 (at_ fa8 (i := 57) rfl) :) (eq0 (at_ fb2 (i := 48) rfl) :)
  have e133 : @Eq ((⟨Cert.KernelIdeal.S131072, .i32⟩ : BufTy).Contents (Elt F)) (Φ₁ (Proc.devRef .tc Cert.KernelIdeal.main_v1767)) (Φ₂ (Proc.devRef .tc Cert.ReferenceIdeal.main_v1777)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 49) rfl) :) e132
  have e134 : @Eq ((⟨Cert.KernelIdeal.S131072, .i32⟩ : BufTy).Contents (Elt F)) (Φ₁ (Proc.devRef .tc Cert.KernelIdeal.main_v1768)) (Φ₂ (Proc.devRef .tc Cert.ReferenceIdeal.main_v1778)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 50) rfl) :) e74 e133
  have e135 : @Eq ((⟨Cert.KernelIdeal.S131072, .i32⟩ : BufTy).Contents (Elt F)) (Φ₁ (Proc.devRef .tc Cert.KernelIdeal.main_v1769)) (Φ₂ (Proc.devRef .tc Cert.ReferenceIdeal.main_v1779)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 51) rfl) :) e131 e134 e74
  have e136 : @Eq ((⟨Cert.KernelIdeal.S_, .i32⟩ : BufTy).Contents (Elt F)) (Φ₁ (Proc.devRef .tc Cert.KernelIdeal.main_c_550)) (Φ₂ (Proc.devRef .tc Cert.ReferenceIdeal.main_c_550)) := step0 (β := ((⟨Cert.KernelIdeal.S_, .i32⟩ : BufTy).Contents (Elt F))) (eq0 (at_ fa8 (i := 61) rfl) :) (eq0 (at_ fb2 (i := 52) rfl) :)
  have e137 : @Eq ((⟨Cert.KernelIdeal.S131072, .i32⟩ : BufTy).Contents (Elt F)) (Φ₁ (Proc.devRef .tc Cert.KernelIdeal.main_v1770)) (Φ₂ (Proc.devRef .tc Cert.ReferenceIdeal.main_v1780)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 53) rfl) :) e136
  have e138 : @Eq ((⟨Cert.KernelIdeal.S131072, .i1⟩ : BufTy).Contents (Elt F)) (Φ₁ (Proc.devRef .tc Cert.KernelIdeal.main_v1771)) (Φ₂ (Proc.devRef .tc Cert.ReferenceIdeal.main_v1781)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 54) rfl) :) e54 e137
  have e139 : @Eq ((⟨Cert.KernelIdeal.S_, .i32⟩ : BufTy).Contents (Elt F)) (Φ₁ (Proc.devRef .tc Cert.KernelIdeal.main_c_551)) (Φ₂ (Proc.devRef .tc Cert.ReferenceIdeal.main_c_551)) := step0 (β := ((⟨Cert.KernelIdeal.S_, .i32⟩ : BufTy).Contents (Elt F))) (eq0 (at_ fa8 (i := 64) rfl) :) (eq0 (at_ fb2 (i := 55) rfl) :)
  have e140 : @Eq ((⟨Cert.KernelIdeal.S131072, .i32⟩ : BufTy).Contents (Elt F)) (Φ₁ (Proc.devRef .tc Cert.KernelIdeal.main_v1772)) (Φ₂ (Proc.devRef .tc Cert.ReferenceIdeal.main_v1782)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 56) rfl) :) e139
  have e141 : @Eq ((⟨Cert.KernelIdeal.S131072, .i32⟩ : BufTy).Contents (Elt F)) (Φ₁ (Proc.devRef .tc Cert.KernelIdeal.main_v1773)) (Φ₂ (Proc.devRef .tc Cert.ReferenceIdeal.main_v1783)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 57) rfl) :) e54 e140
  have e142 : @Eq ((⟨Cert.KernelIdeal.S131072, .i32⟩ : BufTy).Contents (Elt F)) (Φ₁ (Proc.devRef .tc Cert.KernelIdeal.main_v1774)) (Φ₂ (Proc.devRef .tc Cert.ReferenceIdeal.main_v1784)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 58) rfl) :) e138 e141 e54
  have e143 : @Eq ((⟨Cert.KernelIdeal.S131072x1, .i32⟩ : BufTy).Contents (Elt F)) (Φ₁ (Proc.devRef .tc Cert.KernelIdeal.main_v1775)) (Φ₂ (Proc.devRef .tc Cert.ReferenceIdeal.main_v1785)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 59) rfl) :) e135
  have e144 : @Eq ((⟨Cert.KernelIdeal.S131072x1, .i32⟩ : BufTy).Contents (Elt F)) (Φ₁ (Proc.devRef .tc Cert.KernelIdeal.main_v1776)) (Φ₂ (Proc.devRef .tc Cert.ReferenceIdeal.main_v1786)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb3 (i := 0) rfl) :) e142
  have e145 : @Eq ((⟨Cert.KernelIdeal.S131072x2, .i32⟩ : BufTy).Contents (Elt F)) (Φ₁ (Proc.devRef .tc Cert.KernelIdeal.main_v1777)) (Φ₂ (Proc.devRef .tc Cert.ReferenceIdeal.main_v1787)) := by rw [eq2 (at_ fa8 (i := 70) rfl), eq2 (at_ fb3 (i := 1) rfl), e143, e144] <;> rfl
  have e146 : @Eq ((⟨Cert.KernelIdeal.S32x131072, .f32⟩ : BufTy).Contents (Elt F)) (Φ₁ (Proc.devRef .tc Cert.KernelIdeal.main_v1778)) (Φ₂ (Proc.devRef .tc Cert.ReferenceIdeal.main_v1788)) := by rw [eq2 (at_ fa8 (i := 71) rfl), eq2 (at_ fb3 (i := 2) rfl), x2, e145] <;> rfl
  have e147 : @Eq ((⟨Cert.KernelIdeal.S_, .f32⟩ : BufTy).Contents (Elt F)) (Φ₁ (Proc.devRef .tc Cert.KernelIdeal.main_cst_552)) (Φ₂ (Proc.devRef .tc Cert.ReferenceIdeal.main_cst_552)) := step0 (β := ((⟨Cert.KernelIdeal.S_, .f32⟩ : BufTy).Contents (Elt F))) (eq0 (at_ fa8 (i := 72) rfl) :) (eq0 (at_ fb3 (i := 3) rfl) :)
  have e148 : @Eq ((⟨Cert.KernelIdeal.S131072, .f32⟩ : BufTy).Contents (Elt F)) (Φ₁ (Proc.devRef .tc Cert.KernelIdeal.main_v1779)) (Φ₂ (Proc.devRef .tc Cert.ReferenceIdeal.main_v1789)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb3 (i := 4) rfl) :) e147
  have e149 : @Eq ((⟨Cert.KernelIdeal.S131072, .f32⟩ : BufTy).Contents (Elt F)) (Φ₁ (Proc.devRef .tc Cert.KernelIdeal.main_v1780)) (Φ₂ (Proc.devRef .tc Cert.ReferenceIdeal.main_v1790)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb3 (i := 5) rfl) :) e148 e33
  have e150 : @Eq ((⟨Cert.KernelIdeal.S1x131072, .f32⟩ : BufTy).Contents (Elt F)) (Φ₁ (Proc.devRef .tc Cert.KernelIdeal.main_v1781)) (Φ₂ (Proc.devRef .tc Cert.ReferenceIdeal.main_v1791)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb3 (i := 6) rfl) :) e149
  have e151 : @Eq ((⟨Cert.KernelIdeal.S32x131072, .f32⟩ : BufTy).Contents (Elt F)) (Φ₁ (Proc.devRef .tc Cert.KernelIdeal.main_v1782)) (Φ₂ (Proc.devRef .tc Cert.ReferenceIdeal.main_v1792)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb3 (i := 7) rfl) :) e150
  have e152 : @Eq ((⟨Cert.KernelIdeal.S32x131072, .f32⟩ : BufTy).Contents (Elt F)) (Φ₁ (Proc.devRef .tc Cert.KernelIdeal.main_v1783)) (Φ₂ (Proc.devRef .tc Cert.ReferenceIdeal.main_v1793)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb3 (i := 8) rfl) :) e92 e151
  have e153 : @Eq ((⟨Cert.KernelIdeal.S_, .f32⟩ : BufTy).Contents (Elt F)) (Φ₁ (Proc.devRef .tc Cert.KernelIdeal.main_cst_553)) (Φ₂ (Proc.devRef .tc Cert.ReferenceIdeal.main_cst_553)) := step0 (β := ((⟨Cert.KernelIdeal.S_, .f32⟩ : BufTy).Contents (Elt F))) (eq0 (at_ fa8 (i := 78) rfl) :) (eq0 (at_ fb3 (i := 9) rfl) :)
  have e154 : @Eq ((⟨Cert.KernelIdeal.S131072, .f32⟩ : BufTy).Contents (Elt F)) (Φ₁ (Proc.devRef .tc Cert.KernelIdeal.main_v1784)) (Φ₂ (Proc.devRef .tc Cert.ReferenceIdeal.main_v1794)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb3 (i := 10) rfl) :) e153
  have e155 : @Eq ((⟨Cert.KernelIdeal.S131072, .f32⟩ : BufTy).Contents (Elt F)) (Φ₁ (Proc.devRef .tc Cert.KernelIdeal.main_v1785)) (Φ₂ (Proc.devRef .tc Cert.ReferenceIdeal.main_v1795)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 11) rfl) :) e154 e34
  have e156 : @Eq ((⟨Cert.KernelIdeal.S1x131072, .f32⟩ : BufTy).Contents (Elt F)) (Φ₁ (Proc.devRef .tc Cert.KernelIdeal.main_v1786)) (Φ₂ (Proc.devRef .tc Cert.ReferenceIdeal.main_v1796)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 12) rfl) :) e155
  have e157 : @Eq ((⟨Cert.KernelIdeal.S32x131072, .f32⟩ : BufTy).Contents (Elt F)) (Φ₁ (Proc.devRef .tc Cert.KernelIdeal.main_v1787)) (Φ₂ (Proc.devRef .tc Cert.ReferenceIdeal.main_v1797)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 13) rfl) :) e156
  have e158 : @Eq ((⟨Cert.KernelIdeal.S32x131072, .f32⟩ : BufTy).Contents (Elt F)) (Φ₁ (Proc.devRef .tc Cert.KernelIdeal.main_v1788)) (Φ₂ (Proc.devRef .tc Cert.ReferenceIdeal.main_v1798)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 14) rfl) :) e152 e157
  have e159 : @Eq ((⟨Cert.KernelIdeal.S1x131072, .f32⟩ : BufTy).Contents (Elt F)) (Φ₁ (Proc.devRef .tc Cert.KernelIdeal.main_v1789)) (Φ₂ (Proc.devRef .tc Cert.ReferenceIdeal.main_v1799)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 15) rfl) :) e33
  have e160 : @Eq ((⟨Cert.KernelIdeal.S32x131072, .f32⟩ : BufTy).Contents (Elt F)) (Φ₁ (Proc.devRef .tc Cert.KernelIdeal.main_v1790)) (Φ₂ (Proc.devRef .tc Cert.ReferenceIdeal.main_v1800)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 16) rfl) :) e159
  have e161 : @Eq ((⟨Cert.KernelIdeal.S32x131072, .f32⟩ : BufTy).Contents (Elt F)) (Φ₁ (Proc.devRef .tc Cert.KernelIdeal.main_v1791)) (Φ₂ (Proc.devRef .tc Cert.ReferenceIdeal.main_v1801)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 17) rfl) :) e110 e160
  have e162 : @Eq ((⟨Cert.KernelIdeal.S_, .f32⟩ : BufTy).Contents (Elt F)) (Φ₁ (Proc.devRef .tc Cert.KernelIdeal.main_cst_554)) (Φ₂ (Proc.devRef .tc Cert.ReferenceIdeal.main_cst_554)) := step0 (β := ((⟨Cert.KernelIdeal.S_, .f32⟩ : BufTy).Contents (Elt F))) (eq0 (at_ fa8 (i := 87) rfl) :) (eq0 (at_ fb3 (i := 18) rfl) :)
  have e163 : @Eq ((⟨Cert.KernelIdeal.S131072, .f32⟩ : BufTy).Contents (Elt F)) (Φ₁ (Proc.devRef .tc Cert.KernelIdeal.main_v1792)) (Φ₂ (Proc.devRef .tc Cert.ReferenceIdeal.main_v1802)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 19) rfl) :) e162
  have e164 : @Eq ((⟨Cert.KernelIdeal.S131072, .f32⟩ : BufTy).Contents (Elt F)) (Φ₁ (Proc.devRef .tc Cert.KernelIdeal.main_v1793)) (Φ₂ (Proc.devRef .tc Cert.ReferenceIdeal.main_v1803)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 20) rfl) :) e163 e34
  have e165 : @Eq ((⟨Cert.KernelIdeal.S1x131072, .f32⟩ : BufTy).Contents (Elt F)) (Φ₁ (Proc.devRef .tc Cert.KernelIdeal.main_v1794)) (Φ₂ (Proc.devRef .tc Cert.ReferenceIdeal.main_v1804)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 21) rfl) :) e164
  have e166 : @Eq ((⟨Cert.KernelIdeal.S32x131072, .f32⟩ : BufTy).Contents (Elt F)) (Φ₁ (Proc.devRef .tc Cert.KernelIdeal.main_v1795)) (Φ₂ (Proc.devRef .tc Cert.ReferenceIdeal.main_v1805)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 22) rfl) :) e165
  have e167 : @Eq ((⟨Cert.KernelIdeal.S32x131072, .f32⟩ : BufTy).Contents (Elt F)) (Φ₁ (Proc.devRef .tc Cert.KernelIdeal.main_v1796)) (Φ₂ (Proc.devRef .tc Cert.ReferenceIdeal.main_v1806)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 23) rfl) :) e161 e166
  have e168 : @Eq ((⟨Cert.KernelIdeal.S32x131072, .f32⟩ : BufTy).Contents (Elt F)) (Φ₁ (Proc.devRef .tc Cert.KernelIdeal.main_v1797)) (Φ₂ (Proc.devRef .tc Cert.ReferenceIdeal.main_v1807)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 24) rfl) :) e158 e167
  have e169 : @Eq ((⟨Cert.KernelIdeal.S_, .f32⟩ : BufTy).Contents (Elt F)) (Φ₁ (Proc.devRef .tc Cert.KernelIdeal.main_cst_555)) (Φ₂ (Proc.devRef .tc Cert.ReferenceIdeal.main_cst_555)) := step0 (β := ((⟨Cert.KernelIdeal.S_, .f32⟩ : BufTy).Contents (Elt F))) (eq0 (at_ fa8 (i := 94) rfl) :) (eq0 (at_ fb3 (i := 25) rfl) :)
  have e170 : @Eq ((⟨Cert.KernelIdeal.S131072, .f32⟩ : BufTy).Contents (Elt F)) (Φ₁ (Proc.devRef .tc Cert.KernelIdeal.main_v1798)) (Φ₂ (Proc.devRef .tc Cert.ReferenceIdeal.main_v1808)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 26) rfl) :) e169
  have e171 : @Eq ((⟨Cert.KernelIdeal.S131072, .f32⟩ : BufTy).Contents (Elt F)) (Φ₁ (Proc.devRef .tc Cert.KernelIdeal.main_v1799)) (Φ₂ (Proc.devRef .tc Cert.ReferenceIdeal.main_v1809)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 27) rfl) :) e170 e33
  have e172 : @Eq ((⟨Cert.KernelIdeal.S1x131072, .f32⟩ : BufTy).Contents (Elt F)) (Φ₁ (Proc.devRef .tc Cert.KernelIdeal.main_v1800)) (Φ₂ (Proc.devRef .tc Cert.ReferenceIdeal.main_v1810)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 28) rfl) :) e171
  have e173 : @Eq ((⟨Cert.KernelIdeal.S32x131072, .f32⟩ : BufTy).Contents (Elt F)) (Φ₁ (Proc.devRef .tc Cert.KernelIdeal.main_v1801)) (Φ₂ (Proc.devRef .tc Cert.ReferenceIdeal.main_v1811)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 29) rfl) :) e172
  have e174 : @Eq ((⟨Cert.KernelIdeal.S32x131072, .f32⟩ : BufTy).Contents (Elt F)) (Φ₁ (Proc.devRef .tc Cert.KernelIdeal.main_v1802)) (Φ₂ (Proc.devRef .tc Cert.ReferenceIdeal.main_v1812)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 30) rfl) :) e128 e173
  have e175 : @Eq ((⟨Cert.KernelIdeal.S1x131072, .f32⟩ : BufTy).Contents (Elt F)) (Φ₁ (Proc.devRef .tc Cert.KernelIdeal.main_v1803)) (Φ₂ (Proc.devRef .tc Cert.ReferenceIdeal.main_v1813)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 31) rfl) :) e34
  have e176 : @Eq ((⟨Cert.KernelIdeal.S32x131072, .f32⟩ : BufTy).Contents (Elt F)) (Φ₁ (Proc.devRef .tc Cert.KernelIdeal.main_v1804)) (Φ₂ (Proc.devRef .tc Cert.ReferenceIdeal.main_v1814)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 32) rfl) :) e175
  have e177 : @Eq ((⟨Cert.KernelIdeal.S32x131072, .f32⟩ : BufTy).Contents (Elt F)) (Φ₁ (Proc.devRef .tc Cert.KernelIdeal.main_v1805)) (Φ₂ (Proc.devRef .tc Cert.ReferenceIdeal.main_v1815)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 33) rfl) :) e174 e176
  have e178 : @Eq ((⟨Cert.KernelIdeal.S32x131072, .f32⟩ : BufTy).Contents (Elt F)) (Φ₁ (Proc.devRef .tc Cert.KernelIdeal.main_v1806)) (Φ₂ (Proc.devRef .tc Cert.ReferenceIdeal.main_v1816)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 34) rfl) :) e168 e177
  have e179 : @Eq ((⟨Cert.KernelIdeal.S1x131072, .f32⟩ : BufTy).Contents (Elt F)) (Φ₁ (Proc.devRef .tc Cert.KernelIdeal.main_v1807)) (Φ₂ (Proc.devRef .tc Cert.ReferenceIdeal.main_v1817)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 35) rfl) :) e33
  have e180 : @Eq ((⟨Cert.KernelIdeal.S32x131072, .f32⟩ : BufTy).Contents (Elt F)) (Φ₁ (Proc.devRef .tc Cert.KernelIdeal.main_v1808)) (Φ₂ (Proc.devRef .tc Cert.ReferenceIdeal.main_v1818)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 36) rfl) :) e179
  have e181 : @Eq ((⟨Cert.KernelIdeal.S32x131072, .f32⟩ : BufTy).Contents (Elt F)) (Φ₁ (Proc.devRef .tc Cert.KernelIdeal.main_v1809)) (Φ₂ (Proc.devRef .tc Cert.ReferenceIdeal.main_v1819)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 37) rfl) :) e146 e180
  have e182 : @Eq ((⟨Cert.KernelIdeal.S1x131072, .f32⟩ : BufTy).Contents (Elt F)) (Φ₁ (Proc.devRef .tc Cert.KernelIdeal.main_v1810)) (Φ₂ (Proc.devRef .tc Cert.ReferenceIdeal.main_v1820)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 38) rfl) :) e34
  have e183 : @Eq ((⟨Cert.KernelIdeal.S32x131072, .f32⟩ : BufTy).Contents (Elt F)) (Φ₁ (Proc.devRef .tc Cert.KernelIdeal.main_v1811)) (Φ₂ (Proc.devRef .tc Cert.ReferenceIdeal.main_v1821)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 39) rfl) :) e182
  have e184 : @Eq ((⟨Cert.KernelIdeal.S32x131072, .f32⟩ : BufTy).Contents (Elt F)) (Φ₁ (Proc.devRef .tc Cert.KernelIdeal.main_v1812)) (Φ₂ (Proc.devRef .tc Cert.ReferenceIdeal.main_v1822)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 40) rfl) :) e181 e183
  have e185 : @Eq ((⟨Cert.KernelIdeal.S32x131072, .f32⟩ : BufTy).Contents (Elt F)) (Φ₁ (Proc.devRef .tc Cert.KernelIdeal.main_v1813)) (Φ₂ (Proc.devRef .tc Cert.ReferenceIdeal.main_v1823)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 41) rfl) :) e178 e184
  have e186 : @Eq ((⟨Cert.KernelIdeal.S131072x32, .f32⟩ : BufTy).Contents (Elt F)) (Φ₁ (Proc.devRef .tc Cert.KernelIdeal.main_v1814)) (Φ₂ (Proc.devRef .tc Cert.ReferenceIdeal.main_v1824)) := by rw [eq1 (at_ fa8 (i := 111) rfl), eq1 (at_ fb3 (i := 42) rfl), e185] <;> rfl
  exact e186

end Cert.Bridge

end
-- ==== Proof.RefOps5.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 40 of @main: 80 operations, writing buffers 2708 … 2787. -/
abbrev w40 : List (HloOp τ sig (Elt F)) :=
  [ StableHlo.binary main_v1836 main_v1837 main_v1838 (mulf : (⟨S131072, .f32⟩ : BufTy).Contents (Elt F) → (⟨S131072, .f32⟩ : BufTy).Contents (Elt F) → (⟨S131072, .f32⟩ : BufTy).Contents (Elt F)),
    StableHlo.nullary main_cst_560 (constant S_ .f32 0x437F0000#32),
    StableHlo.unary main_cst_560 main_v1839 (broadcastInDim S131072 ![] bcast_S_S131072 : (⟨S_, .f32⟩ : BufTy).Contents (Elt F) → (⟨S131072, .f32⟩ : BufTy).Contents (Elt F)),
    StableHlo.binary main_v1838 main_v1839 main_v1840 (mulf : (⟨S131072, .f32⟩ : BufTy).Contents (Elt F) → (⟨S131072, .f32⟩ : BufTy).Contents (Elt F) → (⟨S131072, .f32⟩ : BufTy).Contents (Elt F)),
    StableHlo.unary main_v1832 main_v1841 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1841 main_v1842 rfl shapeCasts_S131072x1_S131072,
    StableHlo.nullary main_cst_561 (constant S_ .f32 0x3F800000#32),
    StableHlo.unary main_cst_561 main_v1843 (broadcastInDim S131072 ![] bcast_S_S131072 : (⟨S_, .f32⟩ : BufTy).Contents (Elt F) → (⟨S131072, .f32⟩ : BufTy).Contents (Elt F)),
    StableHlo.binary main_v1842 main_v1843 main_v1844 (addf : (⟨S131072, .f32⟩ : BufTy).Contents (Elt F) → (⟨S131072, .f32⟩ : BufTy).Contents (Elt F) → (⟨S131072, .f32⟩ : BufTy).Contents (Elt F)),
    StableHlo.nullary main_cst_562 (constant S_ .f32 0x3F000000#32),
    StableHlo.unary main_cst_562 main_v1845 (broadcastInDim S131072 ![] bcast_S_S131072 : (⟨S_, .f32⟩ : BufTy).Contents (Elt F) → (⟨S131072, .f32⟩ : BufTy).Contents (Elt F)),
    StableHlo.binary main_v1844 main_v1845 main_v1846 (mulf : (⟨S131072, .f32⟩ : BufTy).Contents (Elt F) → (⟨S131072, .f32⟩ : BufTy).Contents (Elt F) → (⟨S131072, .f32⟩ : BufTy).Contents (Elt F)),
    StableHlo.nullary main_cst_563 (constant S_ .f32 0x43150000#32),
    StableHlo.unary main_cst_563 main_v1847 (broadcastInDim S131072 ![] bcast_S_S131072 : (⟨S_, .f32⟩ : BufTy).Contents (Elt F) → (⟨S131072, .f32⟩ : BufTy).Contents (Elt F)),
    StableHlo.binary main_v1846 main_v1847 main_v1848 (mulf : (⟨S131072, .f32⟩ : BufTy).Contents (Elt F) → (⟨S131072, .f32⟩ : BufTy).Contents (Elt F) → (⟨S131072, .f32⟩ : BufTy).Contents (Elt F)),
    StableHlo.unary main_v1840 main_v1849 (Host.floor : (⟨S131072, .f32⟩ : BufTy).Contents (Elt F) → (⟨S131072, .f32⟩ : BufTy).Contents (Elt F)),
    StableHlo.unary main_v1848 main_v1850 (Host.floor : (⟨S131072, .f32⟩ : BufTy).Contents (Elt F) → (⟨S131072, .f32⟩ : BufTy).Contents (Elt F)),
    StableHlo.binary main_v1840 main_v1849 main_v1851 (subf : (⟨S131072, .f32⟩ : BufTy).Contents (Elt F) → (⟨S131072, .f32⟩ : BufTy).Contents (Elt F) → (⟨S131072, .f32⟩ : BufTy).Contents (Elt F)),
    StableHlo.binary main_v1848 main_v1850 main_v1852 (subf : (⟨S131072, .f32⟩ : BufTy).Contents (Elt F) → (⟨S131072, .f32⟩ : BufTy).Contents (Elt F) → (⟨S131072, .f32⟩ : BufTy).Contents (Elt F)),
    StableHlo.unary main_v1849 main_v1853 (fptosi 32 : (⟨S131072, .f32⟩ : BufTy).Contents (Elt F) → (⟨S131072, .i32⟩ : BufTy).Contents (Elt F)),
    StableHlo.nullary main_c_564 (constantI S_ 32 0#32),
    StableHlo.nullary main_c_565 (constantI S_ 32 255#32),
    StableHlo.TRef.unary (.of main_c_564) main_call56.v0 id,
    StableHlo.TRef.unary main_call56.v0 main_call56.v1 (broadcastInDim S131072 ![] bcast_S_S131072),
    StableHlo.TRef.binary main_call56.v1 (.of main_v1853) main_call56.v2 maxsi,
    StableHlo.TRef.unary (.of main_c_565) main_call56.v3 id,
    StableHlo.TRef.unary main_call56.v3 main_call56.v4 (broadcastInDim S131072 ![] bcast_S_S131072),
    StableHlo.TRef.binary main_call56.v4 main_call56.v2 main_call56.v5 minsi,
    StableHlo.nullary main_c_566 (constantI S_ 32 1#32),
    StableHlo.unary main_c_566 main_v1855 (broadcastInDim S131072 ![] bcast_S_S131072 : (⟨S_, .i32⟩ : BufTy).Contents (Elt F) → (⟨S131072, .i32⟩ : BufTy).Contents (Elt F)),
    StableHlo.binary main_v1854 main_v1855 main_v1856 (addi : (⟨S131072, .i32⟩ : BufTy).Contents (Elt F) → (⟨S131072, .i32⟩ : BufTy).Contents (Elt F) → (⟨S131072, .i32⟩ : BufTy).Contents (Elt F)),
    StableHlo.nullary main_c_567 (constantI S_ 32 0#32),
    StableHlo.nullary main_c_568 (constantI S_ 32 255#32),
    StableHlo.TRef.unary (.of main_c_567) main_call57.v0 id,
    StableHlo.TRef.unary main_call57.v0 main_call57.v1 (broadcastInDim S131072 ![] bcast_S_S131072),
    StableHlo.TRef.binary main_call57.v1 (.of main_v1856) main_call57.v2 maxsi,
    StableHlo.TRef.unary (.of main_c_568) main_call57.v3 id,
    StableHlo.TRef.unary main_call57.v3 main_call57.v4 (broadcastInDim S131072 ![] bcast_S_S131072),
    StableHlo.TRef.binary main_call57.v4 main_call57.v2 main_call57.v5 minsi,
    StableHlo.unary main_v1850 main_v1858 (fptosi 32 : (⟨S131072, .f32⟩ : BufTy).Contents (Elt F) → (⟨S131072, .i32⟩ : BufTy).Contents (Elt F)),
    StableHlo.nullary main_c_569 (constantI S_ 32 0#32),
    StableHlo.nullary main_c_570 (constantI S_ 32 149#32),
    StableHlo.TRef.unary (.of main_c_569) main_call58.v0 id,
    StableHlo.TRef.unary main_call58.v0 main_call58.v1 (broadcastInDim S131072 ![] bcast_S_S131072),
    StableHlo.TRef.binary main_call58.v1 (.of main_v1858) main_call58.v2 maxsi,
    StableHlo.TRef.unary (.of main_c_570) main_call58.v3 id,
    StableHlo.TRef.unary main_call58.v3 main_call58.v4 (broadcastInDim S131072 ![] bcast_S_S131072),
    StableHlo.TRef.binary main_call58.v4 main_call58.v2 main_call58.v5 minsi,
    StableHlo.nullary main_c_571 (constantI S_ 32 1#32),
    StableHlo.unary main_c_571 main_v1860 (broadcastInDim S131072 ![] bcast_S_S131072 : (⟨S_, .i32⟩ : BufTy).Contents (Elt F) → (⟨S131072, .i32⟩ : BufTy).Contents (Elt F)),
    StableHlo.binary main_v1859 main_v1860 main_v1861 (addi : (⟨S131072, .i32⟩ : BufTy).Contents (Elt F) → (⟨S131072, .i32⟩ : BufTy).Contents (Elt F) → (⟨S131072, .i32⟩ : BufTy).Contents (Elt F)),
    StableHlo.nullary main_c_572 (constantI S_ 32 0#32),
    StableHlo.nullary main_c_573 (constantI S_ 32 149#32),
    StableHlo.TRef.unary (.of main_c_572) main_call59.v0 id,
    StableHlo.TRef.unary main_call59.v0 main_call59.v1 (broadcastInDim S131072 ![] bcast_S_S131072),
    StableHlo.TRef.binary main_call59.v1 (.of main_v1861) main_call59.v2 maxsi,
    StableHlo.TRef.unary (.of main_c_573) main_call59.v3 id,
    StableHlo.TRef.unary main_call59.v3 main_call59.v4 (broadcastInDim S131072 ![] bcast_S_S131072),
    StableHlo.TRef.binary main_call59.v4 main_call59.v2 main_call59.v5 minsi,
    StableHlo.nullary main_c_574 (constantI S_ 32 0#32),
    StableHlo.unary main_c_574 main_v1863 (broadcastInDim S131072 ![] bcast_S_S131072 : (⟨S_, .i32⟩ : BufTy).Contents (Elt F) → (⟨S131072, .i32⟩ : BufTy).Contents (Elt F)),
    StableHlo.binary main_v1859 main_v1863 main_v1864 (cmpi .slt : (⟨S131072, .i32⟩ : BufTy).Contents (Elt F) → (⟨S131072, .i32⟩ : BufTy).Contents (Elt F) → (⟨S131072, .i1⟩ : BufTy).Contents (Elt F)),
    StableHlo.nullary main_c_575 (constantI S_ 32 150#32),
    StableHlo.unary main_c_575 main_v1865 (broadcastInDim S131072 ![] bcast_S_S131072 : (⟨S_, .i32⟩ : BufTy).Contents (Elt F) → (⟨S131072, .i32⟩ : BufTy).Contents (Elt F)),
    StableHlo.binary main_v1859 main_v1865 main_v1866 (addi : (⟨S131072, .i32⟩ : BufTy).Contents (Elt F) → (⟨S131072, .i32⟩ : BufTy).Contents (Elt F) → (⟨S131072, .i32⟩ : BufTy).Contents (Elt F)),
    StableHlo.ternary main_v1864 main_v1866 main_v1859 main_v1867 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_576 (constantI S_ 32 0#32),
    StableHlo.unary main_c_576 main_v1868 (broadcastInDim S131072 ![] bcast_S_S131072 : (⟨S_, .i32⟩ : BufTy).Contents (Elt F) → (⟨S131072, .i32⟩ : BufTy).Contents (Elt F)),
    StableHlo.binary main_v1854 main_v1868 main_v1869 (cmpi .slt : (⟨S131072, .i32⟩ : BufTy).Contents (Elt F) → (⟨S131072, .i32⟩ : BufTy).Contents (Elt F) → (⟨S131072, .i1⟩ : BufTy).Contents (Elt F)),
    StableHlo.nullary main_c_577 (constantI S_ 32 256#32),
    StableHlo.unary main_c_577 main_v1870 (broadcastInDim S131072 ![] bcast_S_S131072 : (⟨S_, .i32⟩ : BufTy).Contents (Elt F) → (⟨S131072, .i32⟩ : BufTy).Contents (Elt F)),
    StableHlo.binary main_v1854 main_v1870 main_v1871 (addi : (⟨S131072, .i32⟩ : BufTy).Contents (Elt F) → (⟨S131072, .i32⟩ : BufTy).Contents (Elt F) → (⟨S131072, .i32⟩ : BufTy).Contents (Elt F)),
    StableHlo.ternary main_v1869 main_v1871 main_v1854 main_v1872 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1867 main_v1873 (broadcastInDim S131072x1 ![0] bcast_S131072_S131072x1_0 : (⟨S131072, .i32⟩ : BufTy).Contents (Elt F) → (⟨S131072x1, .i32⟩ : BufTy).Contents (Elt F)),
    StableHlo.unary main_v1872 main_v1874 (broadcastInDim S131072x1 ![0] bcast_S131072_S131072x1_0 : (⟨S131072, .i32⟩ : BufTy).Contents (Elt F) → (⟨S131072x1, .i32⟩ : BufTy).Contents (Elt F)),
    StableHlo.binary main_v1873 main_v1874 main_v1875 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg16 main_v1875 main_v1876 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_578 (constantI S_ 32 0#32),
    StableHlo.unary main_c_578 main_v1877 (broadcastInDim S131072 ![] bcast_S_S131072 : (⟨S_, .i32⟩ : BufTy).Contents (Elt F) → (⟨S131072, .i32⟩ : BufTy).Contents (Elt F)),
    StableHlo.binary main_v1859 main_v1877 main_v1878 (cmpi .slt : (⟨S131072, .i32⟩ : BufTy).Contents (Elt F) → (⟨S131072, .i32⟩ : BufTy).Contents (Elt F) → (⟨S131072, .i1⟩ : BufTy).Contents (Elt F)) ]
theorem w40_eq (c : Dev nD) : main_part40 (F := F) c = seq w40 := rfl
theorem w40_sub : (w40 : List (HloOp τ sig (Elt F))).Forall fun op => op.bufs ⊆ tcRefs τ sig :=
  ⟨binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub ..⟩
theorem w40_fresh : (w40 : List (HloOp τ sig (Elt F))).Forall fun op => op.fresh = ∅ := by
  simp only [List.Forall]; repeat' constructor
set_option maxHeartbeats 4000000 in
theorem w40_chain : Chain 2708 (w40 : List (HloOp τ sig (Elt F))) :=
  Chain.cons (stepAt_binary 2708 _ _ _ _ rfl (by decide) (by decide)) <|
  Chain.cons (stepAt_nullary 2709 _ _ rfl) <|
  Chain.cons (stepAt_unary 2710 _ _ _ rfl (by decide)) <|
  Chain.cons (stepAt_binary 2711 _ _ _ _ rfl (by decide) (by decide)) <|
  Chain.cons (stepAt_unary 2712 _ _ _ rfl (by decide)) <|
  Chain.cons (stepAt_reshape 2713 _ _ _ _ rfl (by decide)) <|
  Chain.cons (stepAt_nullary 2714 _ _ rfl) <|
  Chain.cons (stepAt_unary 2715 _ _ _ rfl (by decide)) <|
  Chain.cons (stepAt_binary 2716 _ _ _ _ rfl (by decide) (by decide)) <|
  Chain.cons (stepAt_nullary 2717 _ _ rfl) <|
  Chain.cons (stepAt_unary 2718 _ _ _ rfl (by decide)) <|
  Chain.cons (stepAt_binary 2719 _ _ _ _ rfl (by decide) (by decide)) <|
  Chain.cons (stepAt_nullary 2720 _ _ rfl) <|
  Chain.cons (stepAt_unary 2721 _ _ _ rfl (by decide)) <|
  Chain.cons (stepAt_binary 2722 _ _ _ _ rfl (by decide) (by decide)) <|
  Chain.cons (stepAt_unary 2723 _ _ _ rfl (by decide)) <|
  Chain.cons (stepAt_unary 2724 _ _ _ rfl (by decide)) <|
  Chain.cons (stepAt_binary 2725 _ _ _ _ rfl (by decide) (by decide)) <|
  Chain.cons (stepAt_binary 2726 _ _ _ _ rfl (by decide) (by decide)) <|
  Chain.cons (stepAt_unary 2727 _ _ _ rfl (by decide)) <|
  Chain.cons (stepAt_nullary 2728 _ _ rfl) <|
  Chain.cons (stepAt_nullary 2729 _ _ rfl) <|
  Chain.cons (stepAt_unary 2730 _ _ _ rfl (by decide)) <|
  Chain.cons (stepAt_unary 2731 _ _ _ rfl (by decide)) <|
  Chain.cons (stepAt_binary 2732 _ _ _ _ rfl (by decide) (by decide)) <|
  Chain.cons (stepAt_unary 2733 _ _ _ rfl (by decide)) <|
  Chain.cons (stepAt_unary 2734 _ _ _ rfl (by decide)) <|
  Chain.cons (stepAt_binary 2735 _ _ _ _ rfl (by decide) (by decide)) <|
  Chain.cons (stepAt_nullary 2736 _ _ rfl) <|
  Chain.cons (stepAt_unary 2737 _ _ _ rfl (by decide)) <|
  Chain.cons (stepAt_binary 2738 _ _ _ _ rfl (by decide) (by decide)) <|
  Chain.cons (stepAt_nullary 2739 _ _ rfl) <|
  Chain.cons (stepAt_nullary 2740 _ _ rfl) <|
  Chain.cons (stepAt_unary 2741 _ _ _ rfl (by decide)) <|
  Chain.cons (stepAt_unary 2742 _ _ _ rfl (by decide)) <|
  Chain.cons (stepAt_binary 2743 _ _ _ _ rfl (by decide) (by decide)) <|
  Chain.cons (stepAt_unary 2744 _ _ _ rfl (by decide)) <|
  Chain.cons (stepAt_unary 2745 _ _ _ rfl (by decide)) <|
  Chain.cons (stepAt_binary 2746 _ _ _ _ rfl (by decide) (by decide)) <|
  Chain.cons (stepAt_unary 2747 _ _ _ rfl (by decide)) <|
  Chain.cons (stepAt_nullary 2748 _ _ rfl) <|
  Chain.cons (stepAt_nullary 2749 _ _ rfl) <|
  Chain.cons (stepAt_unary 2750 _ _ _ rfl (by decide)) <|
  Chain.cons (stepAt_unary 2751 _ _ _ rfl (by decide)) <|
  Chain.cons (stepAt_binary 2752 _ _ _ _ rfl (by decide) (by decide)) <|
  Chain.cons (stepAt_unary 2753 _ _ _ rfl (by decide)) <|
  Chain.cons (stepAt_unary 2754 _ _ _ rfl (by decide)) <|
  Chain.cons (stepAt_binary 2755 _ _ _ _ rfl (by decide) (by decide)) <|
  Chain.cons (stepAt_nullary 2756 _ _ rfl) <|
  Chain.cons (stepAt_unary 2757 _ _ _ rfl (by decide)) <|
  Chain.cons (stepAt_binary 2758 _ _ _ _ rfl (by decide) (by decide)) <|
  Chain.cons (stepAt_nullary 2759 _ _ rfl) <|
  Chain.cons (stepAt_nullary 2760 _ _ rfl) <|
  Chain.cons (stepAt_unary 2761 _ _ _ rfl (by decide)) <|
  Chain.cons (stepAt_unary 2762 _ _ _ rfl (by decide)) <|
  Chain.cons (stepAt_binary 2763 _ _ _ _ rfl (by decide) (by decide)) <|
  Chain.cons (stepAt_unary 2764 _ _ _ rfl (by decide)) <|
  Chain.cons (stepAt_unary 2765 _ _ _ rfl (by decide)) <|
  Chain.cons (stepAt_binary 2766 _ _ _ _ rfl (by decide) (by decide)) <|
  Chain.cons (stepAt_nullary 2767 _ _ rfl) <|
  Chain.cons (stepAt_unary 2768 _ _ _ rfl (by decide)) <|
  Chain.cons (stepAt_binary 2769 _ _ _ _ rfl (by decide) (by decide)) <|
  Chain.cons (stepAt_nullary 2770 _ _ rfl) <|
  Chain.cons (stepAt_unary 2771 _ _ _ rfl (by decide)) <|
  Chain.cons (stepAt_binary 2772 _ _ _ _ rfl (by decide) (by decide)) <|
  Chain.cons (stepAt_ternary 2773 _ _ _ _ _ rfl (by decide) (by decide) (by decide)) <|
  Chain.cons (stepAt_nullary 2774 _ _ rfl) <|
  Chain.cons (stepAt_unary 2775 _ _ _ rfl (by decide)) <|
  Chain.cons (stepAt_binary 2776 _ _ _ _ rfl (by decide) (by decide)) <|
  Chain.cons (stepAt_nullary 2777 _ _ rfl) <|
  Chain.cons (stepAt_unary 2778 _ _ _ rfl (by decide)) <|
  Chain.cons (stepAt_binary 2779 _ _ _ _ rfl (by decide) (by decide)) <|
  Chain.cons (stepAt_ternary 2780 _ _ _ _ _ rfl (by decide) (by decide) (by decide)) <|
  Chain.cons (stepAt_unary 2781 _ _ _ rfl (by decide)) <|
  Chain.cons (stepAt_unary 2782 _ _ _ rfl (by decide)) <|
  Chain.cons (stepAt_binary 2783 _ _ _ _ rfl (by decide) (by decide)) <|
  Chain.cons (stepAt_binary 2784 _ _ _ _ rfl (by decide) (by decide)) <|
  Chain.cons (stepAt_nullary 2785 _ _ rfl) <|
  Chain.cons (stepAt_unary 2786 _ _ _ rfl (by decide)) <|
  Chain.cons (stepAt_binary 2787 _ _ _ _ rfl (by decide) (by decide)) <|
  Chain.nil
theorem w40_length : (w40 : List (HloOp τ sig (Elt F))).length = 80 := rfl

/-- Window 41 of @main: 60 operations, writing buffers 2788 … 2847. -/
abbrev w41 : List (HloOp τ sig (Elt F)) :=
  [ StableHlo.nullary main_c_579 (constantI S_ 32 150#32),
    StableHlo.unary main_c_579 main_v1879 (broadcastInDim S131072 ![] bcast_S_S131072 : (⟨S_, .i32⟩ : BufTy).Contents (Elt F) → (⟨S131072, .i32⟩ : BufTy).Contents (Elt F)),
    StableHlo.binary main_v1859 main_v1879 main_v1880 (addi : (⟨S131072, .i32⟩ : BufTy).Contents (Elt F) → (⟨S131072, .i32⟩ : BufTy).Contents (Elt F) → (⟨S131072, .i32⟩ : BufTy).Contents (Elt F)),
    StableHlo.ternary main_v1878 main_v1880 main_v1859 main_v1881 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_580 (constantI S_ 32 0#32),
    StableHlo.unary main_c_580 main_v1882 (broadcastInDim S131072 ![] bcast_S_S131072 : (⟨S_, .i32⟩ : BufTy).Contents (Elt F) → (⟨S131072, .i32⟩ : BufTy).Contents (Elt F)),
    StableHlo.binary main_v1857 main_v1882 main_v1883 (cmpi .slt : (⟨S131072, .i32⟩ : BufTy).Contents (Elt F) → (⟨S131072, .i32⟩ : BufTy).Contents (Elt F) → (⟨S131072, .i1⟩ : BufTy).Contents (Elt F)),
    StableHlo.nullary main_c_581 (constantI S_ 32 256#32),
    StableHlo.unary main_c_581 main_v1884 (broadcastInDim S131072 ![] bcast_S_S131072 : (⟨S_, .i32⟩ : BufTy).Contents (Elt F) → (⟨S131072, .i32⟩ : BufTy).Contents (Elt F)),
    StableHlo.binary main_v1857 main_v1884 main_v1885 (addi : (⟨S131072, .i32⟩ : BufTy).Contents (Elt F) → (⟨S131072, .i32⟩ : BufTy).Contents (Elt F) → (⟨S131072, .i32⟩ : BufTy).Contents (Elt F)),
    StableHlo.ternary main_v1883 main_v1885 main_v1857 main_v1886 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1881 main_v1887 (broadcastInDim S131072x1 ![0] bcast_S131072_S131072x1_0 : (⟨S131072, .i32⟩ : BufTy).Contents (Elt F) → (⟨S131072x1, .i32⟩ : BufTy).Contents (Elt F)),
    StableHlo.unary main_v1886 main_v1888 (broadcastInDim S131072x1 ![0] bcast_S131072_S131072x1_0 : (⟨S131072, .i32⟩ : BufTy).Contents (Elt F) → (⟨S131072x1, .i32⟩ : BufTy).Contents (Elt F)),
    StableHlo.binary main_v1887 main_v1888 main_v1889 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg16 main_v1889 main_v1890 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_582 (constantI S_ 32 0#32),
    StableHlo.unary main_c_582 main_v1891 (broadcastInDim S131072 ![] bcast_S_S131072 : (⟨S_, .i32⟩ : BufTy).Contents (Elt F) → (⟨S131072, .i32⟩ : BufTy).Contents (Elt F)),
    StableHlo.binary main_v1862 main_v1891 main_v1892 (cmpi .slt : (⟨S131072, .i32⟩ : BufTy).Contents (Elt F) → (⟨S131072, .i32⟩ : BufTy).Contents (Elt F) → (⟨S131072, .i1⟩ : BufTy).Contents (Elt F)),
    StableHlo.nullary main_c_583 (constantI S_ 32 150#32),
    StableHlo.unary main_c_583 main_v1893 (broadcastInDim S131072 ![] bcast_S_S131072 : (⟨S_, .i32⟩ : BufTy).Contents (Elt F) → (⟨S131072, .i32⟩ : BufTy).Contents (Elt F)),
    StableHlo.binary main_v1862 main_v1893 main_v1894 (addi : (⟨S131072, .i32⟩ : BufTy).Contents (Elt F) → (⟨S131072, .i32⟩ : BufTy).Contents (Elt F) → (⟨S131072, .i32⟩ : BufTy).Contents (Elt F)),
    StableHlo.ternary main_v1892 main_v1894 main_v1862 main_v1895 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_584 (constantI S_ 32 0#32),
    StableHlo.unary main_c_584 main_v1896 (broadcastInDim S131072 ![] bcast_S_S131072 : (⟨S_, .i32⟩ : BufTy).Contents (Elt F) → (⟨S131072, .i32⟩ : BufTy).Contents (Elt F)),
    StableHlo.binary main_v1854 main_v1896 main_v1897 (cmpi .slt : (⟨S131072, .i32⟩ : BufTy).Contents (Elt F) → (⟨S131072, .i32⟩ : BufTy).Contents (Elt F) → (⟨S131072, .i1⟩ : BufTy).Contents (Elt F)),
    StableHlo.nullary main_c_585 (constantI S_ 32 256#32),
    StableHlo.unary main_c_585 main_v1898 (broadcastInDim S131072 ![] bcast_S_S131072 : (⟨S_, .i32⟩ : BufTy).Contents (Elt F) → (⟨S131072, .i32⟩ : BufTy).Contents (Elt F)),
    StableHlo.binary main_v1854 main_v1898 main_v1899 (addi : (⟨S131072, .i32⟩ : BufTy).Contents (Elt F) → (⟨S131072, .i32⟩ : BufTy).Contents (Elt F) → (⟨S131072, .i32⟩ : BufTy).Contents (Elt F)),
    StableHlo.ternary main_v1897 main_v1899 main_v1854 main_v1900 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1895 main_v1901 (broadcastInDim S131072x1 ![0] bcast_S131072_S131072x1_0 : (⟨S131072, .i32⟩ : BufTy).Contents (Elt F) → (⟨S131072x1, .i32⟩ : BufTy).Contents (Elt F)),
    StableHlo.unary main_v1900 main_v1902 (broadcastInDim S131072x1 ![0] bcast_S131072_S131072x1_0 : (⟨S131072, .i32⟩ : BufTy).Contents (Elt F) → (⟨S131072x1, .i32⟩ : BufTy).Contents (Elt F)),
    StableHlo.binary main_v1901 main_v1902 main_v1903 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg16 main_v1903 main_v1904 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_586 (constantI S_ 32 0#32),
    StableHlo.unary main_c_586 main_v1905 (broadcastInDim S131072 ![] bcast_S_S131072 : (⟨S_, .i32⟩ : BufTy).Contents (Elt F) → (⟨S131072, .i32⟩ : BufTy).Contents (Elt F)),
    StableHlo.binary main_v1862 main_v1905 main_v1906 (cmpi .slt : (⟨S131072, .i32⟩ : BufTy).Contents (Elt F) → (⟨S131072, .i32⟩ : BufTy).Contents (Elt F) → (⟨S131072, .i1⟩ : BufTy).Contents (Elt F)),
    StableHlo.nullary main_c_587 (constantI S_ 32 150#32),
    StableHlo.unary main_c_587 main_v1907 (broadcastInDim S131072 ![] bcast_S_S131072 : (⟨S_, .i32⟩ : BufTy).Contents (Elt F) → (⟨S131072, .i32⟩ : BufTy).Contents (Elt F)),
    StableHlo.binary main_v1862 main_v1907 main_v1908 (addi : (⟨S131072, .i32⟩ : BufTy).Contents (Elt F) → (⟨S131072, .i32⟩ : BufTy).Contents (Elt F) → (⟨S131072, .i32⟩ : BufTy).Contents (Elt F)),
    StableHlo.ternary main_v1906 main_v1908 main_v1862 main_v1909 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_588 (constantI S_ 32 0#32),
    StableHlo.unary main_c_588 main_v1910 (broadcastInDim S131072 ![] bcast_S_S131072 : (⟨S_, .i32⟩ : BufTy).Contents (Elt F) → (⟨S131072, .i32⟩ : BufTy).Contents (Elt F)),
    StableHlo.binary main_v1857 main_v1910 main_v1911 (cmpi .slt : (⟨S131072, .i32⟩ : BufTy).Contents (Elt F) → (⟨S131072, .i32⟩ : BufTy).Contents (Elt F) → (⟨S131072, .i1⟩ : BufTy).Contents (Elt F)),
    StableHlo.nullary main_c_589 (constantI S_ 32 256#32),
    StableHlo.unary main_c_589 main_v1912 (broadcastInDim S131072 ![] bcast_S_S131072 : (⟨S_, .i32⟩ : BufTy).Contents (Elt F) → (⟨S131072, .i32⟩ : BufTy).Contents (Elt F)),
    StableHlo.binary main_v1857 main_v1912 main_v1913 (addi : (⟨S131072, .i32⟩ : BufTy).Contents (Elt F) → (⟨S131072, .i32⟩ : BufTy).Contents (Elt F) → (⟨S131072, .i32⟩ : BufTy).Contents (Elt F)),
    StableHlo.ternary main_v1911 main_v1913 main_v1857 main_v1914 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1909 main_v1915 (broadcastInDim S131072x1 ![0] bcast_S131072_S131072x1_0 : (⟨S131072, .i32⟩ : BufTy).Contents (Elt F) → (⟨S131072x1, .i32⟩ : BufTy).Contents (Elt F)),
    StableHlo.unary main_v1914 main_v1916 (broadcastInDim S131072x1 ![0] bcast_S131072_S131072x1_0 : (⟨S131072, .i32⟩ : BufTy).Contents (Elt F) → (⟨S131072x1, .i32⟩ : BufTy).Contents (Elt F)),
    StableHlo.binary main_v1915 main_v1916 main_v1917 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg16 main_v1917 main_v1918 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_cst_590 (constant S_ .f32 0x3F800000#32),
    StableHlo.unary main_cst_590 main_v1919 (broadcastInDim S131072 ![] bcast_S_S131072 : (⟨S_, .f32⟩ : BufTy).Contents (Elt F) → (⟨S131072, .f32⟩ : BufTy).Contents (Elt F)),
    StableHlo.binary main_v1919 main_v1851 main_v1920 (subf : (⟨S131072, .f32⟩ : BufTy).Contents (Elt F) → (⟨S131072, .f32⟩ : BufTy).Contents (Elt F) → (⟨S131072, .f32⟩ : BufTy).Contents (Elt F)),
    StableHlo.unary main_v1920 main_v1921 (broadcastInDim S1x131072 ![1] bcast_S131072_S1x131072_1 : (⟨S131072, .f32⟩ : BufTy).Contents (Elt F) → (⟨S1x131072, .f32⟩ : BufTy).Contents (Elt F)),
    StableHlo.unary main_v1921 main_v1922 (broadcastInDim S32x131072 ![0, 1] bcast_S1x131072_S32x131072_0_1 : (⟨S1x131072, .f32⟩ : BufTy).Contents (Elt F) → (⟨S32x131072, .f32⟩ : BufTy).Contents (Elt F)),
    StableHlo.binary main_v1876 main_v1922 main_v1923 (mulf : (⟨S32x131072, .f32⟩ : BufTy).Contents (Elt F) → (⟨S32x131072, .f32⟩ : BufTy).Contents (Elt F) → (⟨S32x131072, .f32⟩ : BufTy).Contents (Elt F)),
    StableHlo.nullary main_cst_591 (constant S_ .f32 0x3F800000#32),
    StableHlo.unary main_cst_591 main_v1924 (broadcastInDim S131072 ![] bcast_S_S131072 : (⟨S_, .f32⟩ : BufTy).Contents (Elt F) → (⟨S131072, .f32⟩ : BufTy).Contents (Elt F)),
    StableHlo.binary main_v1924 main_v1852 main_v1925 (subf : (⟨S131072, .f32⟩ : BufTy).Contents (Elt F) → (⟨S131072, .f32⟩ : BufTy).Contents (Elt F) → (⟨S131072, .f32⟩ : BufTy).Contents (Elt F)) ]
theorem w41_eq (c : Dev nD) : main_part41 (F := F) c = seq w41 := rfl
theorem w41_sub : (w41 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩
theorem w41_fresh : (w41 : List (HloOp τ sig (Elt F))).Forall fun op => op.fresh = ∅ := by
  simp only [List.Forall]; repeat' constructor
set_option maxHeartbeats 4000000 in
theorem w41_chain : Chain 2788 (w41 : List (HloOp τ sig (Elt F))) :=
  Chain.cons (stepAt_nullary 2788 _ _ rfl) <|
  Chain.cons (stepAt_unary 2789 _ _ _ rfl (by decide)) <|
  Chain.cons (stepAt_binary 2790 _ _ _ _ rfl (by decide) (by decide)) <|
  Chain.cons (stepAt_ternary 2791 _ _ _ _ _ rfl (by decide) (by decide) (by decide)) <|
  Chain.cons (stepAt_nullary 2792 _ _ rfl) <|
  Chain.cons (stepAt_unary 2793 _ _ _ rfl (by decide)) <|
  Chain.cons (stepAt_binary 2794 _ _ _ _ rfl (by decide) (by decide)) <|
  Chain.cons (stepAt_nullary 2795 _ _ rfl) <|
  Chain.cons (stepAt_unary 2796 _ _ _ rfl (by decide)) <|
  Chain.cons (stepAt_binary 2797 _ _ _ _ rfl (by decide) (by decide)) <|
  Chain.cons (stepAt_ternary 2798 _ _ _ _ _ rfl (by decide) (by decide) (by decide)) <|
  Chain.cons (stepAt_unary 2799 _ _ _ rfl (by decide)) <|
  Chain.cons (stepAt_unary 2800 _ _ _ rfl (by decide)) <|
  Chain.cons (stepAt_binary 2801 _ _ _ _ rfl (by decide) (by decide)) <|
  Chain.cons (stepAt_binary 2802 _ _ _ _ rfl (by decide) (by decide)) <|
  Chain.cons (stepAt_nullary 2803 _ _ rfl) <|
  Chain.cons (stepAt_unary 2804 _ _ _ rfl (by decide)) <|
  Chain.cons (stepAt_binary 2805 _ _ _ _ rfl (by decide) (by decide)) <|
  Chain.cons (stepAt_nullary 2806 _ _ rfl) <|
  Chain.cons (stepAt_unary 2807 _ _ _ rfl (by decide)) <|
  Chain.cons (stepAt_binary 2808 _ _ _ _ rfl (by decide) (by decide)) <|
  Chain.cons (stepAt_ternary 2809 _ _ _ _ _ rfl (by decide) (by decide) (by decide)) <|
  Chain.cons (stepAt_nullary 2810 _ _ rfl) <|
  Chain.cons (stepAt_unary 2811 _ _ _ rfl (by decide)) <|
  Chain.cons (stepAt_binary 2812 _ _ _ _ rfl (by decide) (by decide)) <|
  Chain.cons (stepAt_nullary 2813 _ _ rfl) <|
  Chain.cons (stepAt_unary 2814 _ _ _ rfl (by decide)) <|
  Chain.cons (stepAt_binary 2815 _ _ _ _ rfl (by decide) (by decide)) <|
  Chain.cons (stepAt_ternary 2816 _ _ _ _ _ rfl (by decide) (by decide) (by decide)) <|
  Chain.cons (stepAt_unary 2817 _ _ _ rfl (by decide)) <|
  Chain.cons (stepAt_unary 2818 _ _ _ rfl (by decide)) <|
  Chain.cons (stepAt_binary 2819 _ _ _ _ rfl (by decide) (by decide)) <|
  Chain.cons (stepAt_binary 2820 _ _ _ _ rfl (by decide) (by decide)) <|
  Chain.cons (stepAt_nullary 2821 _ _ rfl) <|
  Chain.cons (stepAt_unary 2822 _ _ _ rfl (by decide)) <|
  Chain.cons (stepAt_binary 2823 _ _ _ _ rfl (by decide) (by decide)) <|
  Chain.cons (stepAt_nullary 2824 _ _ rfl) <|
  Chain.cons (stepAt_unary 2825 _ _ _ rfl (by decide)) <|
  Chain.cons (stepAt_binary 2826 _ _ _ _ rfl (by decide) (by decide)) <|
  Chain.cons (stepAt_ternary 2827 _ _ _ _ _ rfl (by decide) (by decide) (by decide)) <|
  Chain.cons (stepAt_nullary 2828 _ _ rfl) <|
  Chain.cons (stepAt_unary 2829 _ _ _ rfl (by decide)) <|
  Chain.cons (stepAt_binary 2830 _ _ _ _ rfl (by decide) (by decide)) <|
  Chain.cons (stepAt_nullary 2831 _ _ rfl) <|
  Chain.cons (stepAt_unary 2832 _ _ _ rfl (by decide)) <|
  Chain.cons (stepAt_binary 2833 _ _ _ _ rfl (by decide) (by decide)) <|
  Chain.cons (stepAt_ternary 2834 _ _ _ _ _ rfl (by decide) (by decide) (by decide)) <|
  Chain.cons (stepAt_unary 2835 _ _ _ rfl (by decide)) <|
  Chain.cons (stepAt_unary 2836 _ _ _ rfl (by decide)) <|
  Chain.cons (stepAt_binary 2837 _ _ _ _ rfl (by decide) (by decide)) <|
  Chain.cons (stepAt_binary 2838 _ _ _ _ rfl (by decide) (by decide)) <|
  Chain.cons (stepAt_nullary 2839 _ _ rfl) <|
  Chain.cons (stepAt_unary 2840 _ _ _ rfl (by decide)) <|
  Chain.cons (stepAt_binary 2841 _ _ _ _ rfl (by decide) (by decide)) <|
  Chain.cons (stepAt_unary 2842 _ _ _ rfl (by decide)) <|
  Chain.cons (stepAt_unary 2843 _ _ _ rfl (by decide)) <|
  Chain.cons (stepAt_binary 2844 _ _ _ _ rfl (by decide) (by decide)) <|
  Chain.cons (stepAt_nullary 2845 _ _ rfl) <|
  Chain.cons (stepAt_unary 2846 _ _ _ rfl (by decide)) <|
  Chain.cons (stepAt_binary 2847 _ _ _ _ rfl (by decide) (by decide)) <|
  Chain.nil
theorem w41_length : (w41 : List (HloOp τ sig (Elt F))).length = 60 := rfl

/-- Window 42 of @main: 60 operations, writing buffers 2848 … 2907. -/
abbrev w42 : List (HloOp τ sig (Elt F)) :=
  [ StableHlo.unary main_v1925 main_v1926 (broadcastInDim S1x131072 ![1] bcast_S131072_S1x131072_1 : (⟨S131072, .f32⟩ : BufTy).Contents (Elt F) → (⟨S1x131072, .f32⟩ : BufTy).Contents (Elt F)),
    StableHlo.unary main_v1926 main_v1927 (broadcastInDim S32x131072 ![0, 1] bcast_S1x131072_S32x131072_0_1 : (⟨S1x131072, .f32⟩ : BufTy).Contents (Elt F) → (⟨S32x131072, .f32⟩ : BufTy).Contents (Elt F)),
    StableHlo.binary main_v1923 main_v1927 main_v1928 (mulf : (⟨S32x131072, .f32⟩ : BufTy).Contents (Elt F) → (⟨S32x131072, .f32⟩ : BufTy).Contents (Elt F) → (⟨S32x131072, .f32⟩ : BufTy).Contents (Elt F)),
    StableHlo.unary main_v1851 main_v1929 (broadcastInDim S1x131072 ![1] bcast_S131072_S1x131072_1 : (⟨S131072, .f32⟩ : BufTy).Contents (Elt F) → (⟨S1x131072, .f32⟩ : BufTy).Contents (Elt F)),
    StableHlo.unary main_v1929 main_v1930 (broadcastInDim S32x131072 ![0, 1] bcast_S1x131072_S32x131072_0_1 : (⟨S1x131072, .f32⟩ : BufTy).Contents (Elt F) → (⟨S32x131072, .f32⟩ : BufTy).Contents (Elt F)),
    StableHlo.binary main_v1890 main_v1930 main_v1931 (mulf : (⟨S32x131072, .f32⟩ : BufTy).Contents (Elt F) → (⟨S32x131072, .f32⟩ : BufTy).Contents (Elt F) → (⟨S32x131072, .f32⟩ : BufTy).Contents (Elt F)),
    StableHlo.nullary main_cst_592 (constant S_ .f32 0x3F800000#32),
    StableHlo.unary main_cst_592 main_v1932 (broadcastInDim S131072 ![] bcast_S_S131072 : (⟨S_, .f32⟩ : BufTy).Contents (Elt F) → (⟨S131072, .f32⟩ : BufTy).Contents (Elt F)),
    StableHlo.binary main_v1932 main_v1852 main_v1933 (subf : (⟨S131072, .f32⟩ : BufTy).Contents (Elt F) → (⟨S131072, .f32⟩ : BufTy).Contents (Elt F) → (⟨S131072, .f32⟩ : BufTy).Contents (Elt F)),
    StableHlo.unary main_v1933 main_v1934 (broadcastInDim S1x131072 ![1] bcast_S131072_S1x131072_1 : (⟨S131072, .f32⟩ : BufTy).Contents (Elt F) → (⟨S1x131072, .f32⟩ : BufTy).Contents (Elt F)),
    StableHlo.unary main_v1934 main_v1935 (broadcastInDim S32x131072 ![0, 1] bcast_S1x131072_S32x131072_0_1 : (⟨S1x131072, .f32⟩ : BufTy).Contents (Elt F) → (⟨S32x131072, .f32⟩ : BufTy).Contents (Elt F)),
    StableHlo.binary main_v1931 main_v1935 main_v1936 (mulf : (⟨S32x131072, .f32⟩ : BufTy).Contents (Elt F) → (⟨S32x131072, .f32⟩ : BufTy).Contents (Elt F) → (⟨S32x131072, .f32⟩ : BufTy).Contents (Elt F)),
    StableHlo.binary main_v1928 main_v1936 main_v1937 (addf : (⟨S32x131072, .f32⟩ : BufTy).Contents (Elt F) → (⟨S32x131072, .f32⟩ : BufTy).Contents (Elt F) → (⟨S32x131072, .f32⟩ : BufTy).Contents (Elt F)),
    StableHlo.nullary main_cst_593 (constant S_ .f32 0x3F800000#32),
    StableHlo.unary main_cst_593 main_v1938 (broadcastInDim S131072 ![] bcast_S_S131072 : (⟨S_, .f32⟩ : BufTy).Contents (Elt F) → (⟨S131072, .f32⟩ : BufTy).Contents (Elt F)),
    StableHlo.binary main_v1938 main_v1851 main_v1939 (subf : (⟨S131072, .f32⟩ : BufTy).Contents (Elt F) → (⟨S131072, .f32⟩ : BufTy).Contents (Elt F) → (⟨S131072, .f32⟩ : BufTy).Contents (Elt F)),
    StableHlo.unary main_v1939 main_v1940 (broadcastInDim S1x131072 ![1] bcast_S131072_S1x131072_1 : (⟨S131072, .f32⟩ : BufTy).Contents (Elt F) → (⟨S1x131072, .f32⟩ : BufTy).Contents (Elt F)),
    StableHlo.unary main_v1940 main_v1941 (broadcastInDim S32x131072 ![0, 1] bcast_S1x131072_S32x131072_0_1 : (⟨S1x131072, .f32⟩ : BufTy).Contents (Elt F) → (⟨S32x131072, .f32⟩ : BufTy).Contents (Elt F)),
    StableHlo.binary main_v1904 main_v1941 main_v1942 (mulf : (⟨S32x131072, .f32⟩ : BufTy).Contents (Elt F) → (⟨S32x131072, .f32⟩ : BufTy).Contents (Elt F) → (⟨S32x131072, .f32⟩ : BufTy).Contents (Elt F)),
    StableHlo.unary main_v1852 main_v1943 (broadcastInDim S1x131072 ![1] bcast_S131072_S1x131072_1 : (⟨S131072, .f32⟩ : BufTy).Contents (Elt F) → (⟨S1x131072, .f32⟩ : BufTy).Contents (Elt F)),
    StableHlo.unary main_v1943 main_v1944 (broadcastInDim S32x131072 ![0, 1] bcast_S1x131072_S32x131072_0_1 : (⟨S1x131072, .f32⟩ : BufTy).Contents (Elt F) → (⟨S32x131072, .f32⟩ : BufTy).Contents (Elt F)),
    StableHlo.binary main_v1942 main_v1944 main_v1945 (mulf : (⟨S32x131072, .f32⟩ : BufTy).Contents (Elt F) → (⟨S32x131072, .f32⟩ : BufTy).Contents (Elt F) → (⟨S32x131072, .f32⟩ : BufTy).Contents (Elt F)),
    StableHlo.binary main_v1937 main_v1945 main_v1946 (addf : (⟨S32x131072, .f32⟩ : BufTy).Contents (Elt F) → (⟨S32x131072, .f32⟩ : BufTy).Contents (Elt F) → (⟨S32x131072, .f32⟩ : BufTy).Contents (Elt F)),
    StableHlo.unary main_v1851 main_v1947 (broadcastInDim S1x131072 ![1] bcast_S131072_S1x131072_1 : (⟨S131072, .f32⟩ : BufTy).Contents (Elt F) → (⟨S1x131072, .f32⟩ : BufTy).Contents (Elt F)),
    StableHlo.unary main_v1947 main_v1948 (broadcastInDim S32x131072 ![0, 1] bcast_S1x131072_S32x131072_0_1 : (⟨S1x131072, .f32⟩ : BufTy).Contents (Elt F) → (⟨S32x131072, .f32⟩ : BufTy).Contents (Elt F)),
    StableHlo.binary main_v1918 main_v1948 main_v1949 (mulf : (⟨S32x131072, .f32⟩ : BufTy).Contents (Elt F) → (⟨S32x131072, .f32⟩ : BufTy).Contents (Elt F) → (⟨S32x131072, .f32⟩ : BufTy).Contents (Elt F)),
    StableHlo.unary main_v1852 main_v1950 (broadcastInDim S1x131072 ![1] bcast_S131072_S1x131072_1 : (⟨S131072, .f32⟩ : BufTy).Contents (Elt F) → (⟨S1x131072, .f32⟩ : BufTy).Contents (Elt F)),
    StableHlo.unary main_v1950 main_v1951 (broadcastInDim S32x131072 ![0, 1] bcast_S1x131072_S32x131072_0_1 : (⟨S1x131072, .f32⟩ : BufTy).Contents (Elt F) → (⟨S32x131072, .f32⟩ : BufTy).Contents (Elt F)),
    StableHlo.binary main_v1949 main_v1951 main_v1952 (mulf : (⟨S32x131072, .f32⟩ : BufTy).Contents (Elt F) → (⟨S32x131072, .f32⟩ : BufTy).Contents (Elt F) → (⟨S32x131072, .f32⟩ : BufTy).Contents (Elt F)),
    StableHlo.binary main_v1946 main_v1952 main_v1953 (addf : (⟨S32x131072, .f32⟩ : BufTy).Contents (Elt F) → (⟨S32x131072, .f32⟩ : BufTy).Contents (Elt F) → (⟨S32x131072, .f32⟩ : BufTy).Contents (Elt F)),
    StableHlo.unary main_v1953 main_v1954 ((transpose S131072x32 [1, 0] · transposes_S32x131072_S131072x32_1_0) : (⟨S32x131072, .f32⟩ : BufTy).Contents (Elt F) → (⟨S131072x32, .f32⟩ : BufTy).Contents (Elt F)),
    StableHlo.binary main_v1825 main_v1954 main_v1955 (mulf : (⟨S131072x32, .f32⟩ : BufTy).Contents (Elt F) → (⟨S131072x32, .f32⟩ : BufTy).Contents (Elt F) → (⟨S131072x32, .f32⟩ : BufTy).Contents (Elt F)),
    StableHlo.nullary main_c_594 (constantI S_ 32 0#32),
    StableHlo.unary main_c_594 main_v1956 (broadcastInDim S2 ![] bcast_S_S2 : (⟨S_, .i32⟩ : BufTy).Contents (Elt F) → (⟨S2, .i32⟩ : BufTy).Contents (Elt F)),
    StableHlo.binary main_c_14 main_v1956 main_v1957 (cmpi .slt : (⟨S2, .i32⟩ : BufTy).Contents (Elt F) → (⟨S2, .i32⟩ : BufTy).Contents (Elt F) → (⟨S2, .i1⟩ : BufTy).Contents (Elt F)),
    StableHlo.nullary main_c_595 (constantI S_ 32 4#32),
    StableHlo.unary main_c_595 main_v1958 (broadcastInDim S2 ![] bcast_S_S2 : (⟨S_, .i32⟩ : BufTy).Contents (Elt F) → (⟨S2, .i32⟩ : BufTy).Contents (Elt F)),
    StableHlo.binary main_c_14 main_v1958 main_v1959 (addi : (⟨S2, .i32⟩ : BufTy).Contents (Elt F) → (⟨S2, .i32⟩ : BufTy).Contents (Elt F) → (⟨S2, .i32⟩ : BufTy).Contents (Elt F)),
    StableHlo.ternary main_v1957 main_v1959 main_c_14 main_v1960 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v1960 main_v1961 (broadcastInDim S2x1 ![0] bcast_S2_S2x1_0 : (⟨S2, .i32⟩ : BufTy).Contents (Elt F) → (⟨S2x1, .i32⟩ : BufTy).Contents (Elt F)),
    StableHlo.binary main_v8 main_v1961 main_v1962 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v1962 main_v1963 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v1963 main_v1964 rfl shapeCasts_S131072x1_S131072,
    StableHlo.nullary main_cst_596 (constant S_ .f32 0x3F800000#32),
    StableHlo.unary main_cst_596 main_v1965 (broadcastInDim S131072 ![] bcast_S_S131072 : (⟨S_, .f32⟩ : BufTy).Contents (Elt F) → (⟨S131072, .f32⟩ : BufTy).Contents (Elt F)),
    StableHlo.binary main_v1964 main_v1965 main_v1966 (addf : (⟨S131072, .f32⟩ : BufTy).Contents (Elt F) → (⟨S131072, .f32⟩ : BufTy).Contents (Elt F) → (⟨S131072, .f32⟩ : BufTy).Contents (Elt F)),
    StableHlo.nullary main_cst_597 (constant S_ .f32 0x3F000000#32),
    StableHlo.unary main_cst_597 main_v1967 (broadcastInDim S131072 ![] bcast_S_S131072 : (⟨S_, .f32⟩ : BufTy).Contents (Elt F) → (⟨S131072, .f32⟩ : BufTy).Contents (Elt F)),
    StableHlo.binary main_v1966 main_v1967 main_v1968 (mulf : (⟨S131072, .f32⟩ : BufTy).Contents (Elt F) → (⟨S131072, .f32⟩ : BufTy).Contents (Elt F) → (⟨S131072, .f32⟩ : BufTy).Contents (Elt F)),
    StableHlo.nullary main_cst_598 (constant S_ .f32 0x437F0000#32),
    StableHlo.unary main_cst_598 main_v1969 (broadcastInDim S131072 ![] bcast_S_S131072 : (⟨S_, .f32⟩ : BufTy).Contents (Elt F) → (⟨S131072, .f32⟩ : BufTy).Contents (Elt F)),
    StableHlo.binary main_v1968 main_v1969 main_v1970 (mulf : (⟨S131072, .f32⟩ : BufTy).Contents (Elt F) → (⟨S131072, .f32⟩ : BufTy).Contents (Elt F) → (⟨S131072, .f32⟩ : BufTy).Contents (Elt F)),
    StableHlo.unary main_v1962 main_v1971 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v1971 main_v1972 rfl shapeCasts_S131072x1_S131072,
    StableHlo.nullary main_cst_599 (constant S_ .f32 0x3F800000#32),
    StableHlo.unary main_cst_599 main_v1973 (broadcastInDim S131072 ![] bcast_S_S131072 : (⟨S_, .f32⟩ : BufTy).Contents (Elt F) → (⟨S131072, .f32⟩ : BufTy).Contents (Elt F)),
    StableHlo.binary main_v1972 main_v1973 main_v1974 (addf : (⟨S131072, .f32⟩ : BufTy).Contents (Elt F) → (⟨S131072, .f32⟩ : BufTy).Contents (Elt F) → (⟨S131072, .f32⟩ : BufTy).Contents (Elt F)),
    StableHlo.nullary main_cst_600 (constant S_ .f32 0x3F000000#32),
    StableHlo.unary main_cst_600 main_v1975 (broadcastInDim S131072 ![] bcast_S_S131072 : (⟨S_, .f32⟩ : BufTy).Contents (Elt F) → (⟨S131072, .f32⟩ : BufTy).Contents (Elt F)),
    StableHlo.binary main_v1974 main_v1975 main_v1976 (mulf : (⟨S131072, .f32⟩ : BufTy).Contents (Elt F) → (⟨S131072, .f32⟩ : BufTy).Contents (Elt F) → (⟨S131072, .f32⟩ : BufTy).Contents (Elt F)) ]
theorem w42_eq (c : Dev nD) : main_part42 (F := F) c = seq w42 := rfl
theorem w42_sub : (w42 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub ..⟩
theorem w42_fresh : (w42 : List (HloOp τ sig (Elt F))).Forall fun op => op.fresh = ∅ := by
  simp only [List.Forall]; repeat' constructor
set_option maxHeartbeats 4000000 in
theorem w42_chain : Chain 2848 (w42 : List (HloOp τ sig (Elt F))) :=
  Chain.cons (stepAt_unary 2848 _ _ _ rfl (by decide)) <|
  Chain.cons (stepAt_unary 2849 _ _ _ rfl (by decide)) <|
  Chain.cons (stepAt_binary 2850 _ _ _ _ rfl (by decide) (by decide)) <|
  Chain.cons (stepAt_unary 2851 _ _ _ rfl (by decide)) <|
  Chain.cons (stepAt_unary 2852 _ _ _ rfl (by decide)) <|
  Chain.cons (stepAt_binary 2853 _ _ _ _ rfl (by decide) (by decide)) <|
  Chain.cons (stepAt_nullary 2854 _ _ rfl) <|
  Chain.cons (stepAt_unary 2855 _ _ _ rfl (by decide)) <|
  Chain.cons (stepAt_binary 2856 _ _ _ _ rfl (by decide) (by decide)) <|
  Chain.cons (stepAt_unary 2857 _ _ _ rfl (by decide)) <|
  Chain.cons (stepAt_unary 2858 _ _ _ rfl (by decide)) <|
  Chain.cons (stepAt_binary 2859 _ _ _ _ rfl (by decide) (by decide)) <|
  Chain.cons (stepAt_binary 2860 _ _ _ _ rfl (by decide) (by decide)) <|
  Chain.cons (stepAt_nullary 2861 _ _ rfl) <|
  Chain.cons (stepAt_unary 2862 _ _ _ rfl (by decide)) <|
  Chain.cons (stepAt_binary 2863 _ _ _ _ rfl (by decide) (by decide)) <|
  Chain.cons (stepAt_unary 2864 _ _ _ rfl (by decide)) <|
  Chain.cons (stepAt_unary 2865 _ _ _ rfl (by decide)) <|
  Chain.cons (stepAt_binary 2866 _ _ _ _ rfl (by decide) (by decide)) <|
  Chain.cons (stepAt_unary 2867 _ _ _ rfl (by decide)) <|
  Chain.cons (stepAt_unary 2868 _ _ _ rfl (by decide)) <|
  Chain.cons (stepAt_binary 2869 _ _ _ _ rfl (by decide) (by decide)) <|
  Chain.cons (stepAt_binary 2870 _ _ _ _ rfl (by decide) (by decide)) <|
  Chain.cons (stepAt_unary 2871 _ _ _ rfl (by decide)) <|
  Chain.cons (stepAt_unary 2872 _ _ _ rfl (by decide)) <|
  Chain.cons (stepAt_binary 2873 _ _ _ _ rfl (by decide) (by decide)) <|
  Chain.cons (stepAt_unary 2874 _ _ _ rfl (by decide)) <|
  Chain.cons (stepAt_unary 2875 _ _ _ rfl (by decide)) <|
  Chain.cons (stepAt_binary 2876 _ _ _ _ rfl (by decide) (by decide)) <|
  Chain.cons (stepAt_binary 2877 _ _ _ _ rfl (by decide) (by decide)) <|
  Chain.cons (stepAt_unary 2878 _ _ _ rfl (by decide)) <|
  Chain.cons (stepAt_binary 2879 _ _ _ _ rfl (by decide) (by decide)) <|
  Chain.cons (stepAt_nullary 2880 _ _ rfl) <|
  Chain.cons (stepAt_unary 2881 _ _ _ rfl (by decide)) <|
  Chain.cons (stepAt_binary 2882 _ _ _ _ rfl (by decide) (by decide)) <|
  Chain.cons (stepAt_nullary 2883 _ _ rfl) <|
  Chain.cons (stepAt_unary 2884 _ _ _ rfl (by decide)) <|
  Chain.cons (stepAt_binary 2885 _ _ _ _ rfl (by decide) (by decide)) <|
  Chain.cons (stepAt_ternary 2886 _ _ _ _ _ rfl (by decide) (by decide) (by decide)) <|
  Chain.cons (stepAt_unary 2887 _ _ _ rfl (by decide)) <|
  Chain.cons (stepAt_binary 2888 _ _ _ _ rfl (by decide) (by decide)) <|
  Chain.cons (stepAt_unary 2889 _ _ _ rfl (by decide)) <|
  Chain.cons (stepAt_reshape 2890 _ _ _ _ rfl (by decide)) <|
  Chain.cons (stepAt_nullary 2891 _ _ rfl) <|
  Chain.cons (stepAt_unary 2892 _ _ _ rfl (by decide)) <|
  Chain.cons (stepAt_binary 2893 _ _ _ _ rfl (by decide) (by decide)) <|
  Chain.cons (stepAt_nullary 2894 _ _ rfl) <|
  Chain.cons (stepAt_unary 2895 _ _ _ rfl (by decide)) <|
  Chain.cons (stepAt_binary 2896 _ _ _ _ rfl (by decide) (by decide)) <|
  Chain.cons (stepAt_nullary 2897 _ _ rfl) <|
  Chain.cons (stepAt_unary 2898 _ _ _ rfl (by decide)) <|
  Chain.cons (stepAt_binary 2899 _ _ _ _ rfl (by decide) (by decide)) <|
  Chain.cons (stepAt_unary 2900 _ _ _ rfl (by decide)) <|
  Chain.cons (stepAt_reshape 2901 _ _ _ _ rfl (by decide)) <|
  Chain.cons (stepAt_nullary 2902 _ _ rfl) <|
  Chain.cons (stepAt_unary 2903 _ _ _ rfl (by decide)) <|
  Chain.cons (stepAt_binary 2904 _ _ _ _ rfl (by decide) (by decide)) <|
  Chain.cons (stepAt_nullary 2905 _ _ rfl) <|
  Chain.cons (stepAt_unary 2906 _ _ _ rfl (by decide)) <|
  Chain.cons (stepAt_binary 2907 _ _ _ _ rfl (by decide) (by decide)) <|
  Chain.nil
theorem w42_length : (w42 : List (HloOp τ sig (Elt F))).length = 60 := rfl

/-- Window 43 of @main: 80 operations, writing buffers 2908 … 2987. -/
abbrev w43 : List (HloOp τ sig (Elt F)) :=
  [ StableHlo.nullary main_cst_601 (constant S_ .f32 0x437F0000#32),
    StableHlo.unary main_cst_601 main_v1977 (broadcastInDim S131072 ![] bcast_S_S131072 : (⟨S_, .f32⟩ : BufTy).Contents (Elt F) → (⟨S131072, .f32⟩ : BufTy).Contents (Elt F)),
    StableHlo.binary main_v1976 main_v1977 main_v1978 (mulf : (⟨S131072, .f32⟩ : BufTy).Contents (Elt F) → (⟨S131072, .f32⟩ : BufTy).Contents (Elt F) → (⟨S131072, .f32⟩ : BufTy).Contents (Elt F)),
    StableHlo.unary main_v1970 main_v1979 (Host.floor : (⟨S131072, .f32⟩ : BufTy).Contents (Elt F) → (⟨S131072, .f32⟩ : BufTy).Contents (Elt F)),
    StableHlo.unary main_v1978 main_v1980 (Host.floor : (⟨S131072, .f32⟩ : BufTy).Contents (Elt F) → (⟨S131072, .f32⟩ : BufTy).Contents (Elt F)),
    StableHlo.binary main_v1970 main_v1979 main_v1981 (subf : (⟨S131072, .f32⟩ : BufTy).Contents (Elt F) → (⟨S131072, .f32⟩ : BufTy).Contents (Elt F) → (⟨S131072, .f32⟩ : BufTy).Contents (Elt F)),
    StableHlo.binary main_v1978 main_v1980 main_v1982 (subf : (⟨S131072, .f32⟩ : BufTy).Contents (Elt F) → (⟨S131072, .f32⟩ : BufTy).Contents (Elt F) → (⟨S131072, .f32⟩ : BufTy).Contents (Elt F)),
    StableHlo.unary main_v1979 main_v1983 (fptosi 32 : (⟨S131072, .f32⟩ : BufTy).Contents (Elt F) → (⟨S131072, .i32⟩ : BufTy).Contents (Elt F)),
    StableHlo.nullary main_c_602 (constantI S_ 32 0#32),
    StableHlo.nullary main_c_603 (constantI S_ 32 255#32),
    StableHlo.TRef.unary (.of main_c_602) main_call60.v0 id,
    StableHlo.TRef.unary main_call60.v0 main_call60.v1 (broadcastInDim S131072 ![] bcast_S_S131072),
    StableHlo.TRef.binary main_call60.v1 (.of main_v1983) main_call60.v2 maxsi,
    StableHlo.TRef.unary (.of main_c_603) main_call60.v3 id,
    StableHlo.TRef.unary main_call60.v3 main_call60.v4 (broadcastInDim S131072 ![] bcast_S_S131072),
    StableHlo.TRef.binary main_call60.v4 main_call60.v2 main_call60.v5 minsi,
    StableHlo.nullary main_c_604 (constantI S_ 32 1#32),
    StableHlo.unary main_c_604 main_v1985 (broadcastInDim S131072 ![] bcast_S_S131072 : (⟨S_, .i32⟩ : BufTy).Contents (Elt F) → (⟨S131072, .i32⟩ : BufTy).Contents (Elt F)),
    StableHlo.binary main_v1984 main_v1985 main_v1986 (addi : (⟨S131072, .i32⟩ : BufTy).Contents (Elt F) → (⟨S131072, .i32⟩ : BufTy).Contents (Elt F) → (⟨S131072, .i32⟩ : BufTy).Contents (Elt F)),
    StableHlo.nullary main_c_605 (constantI S_ 32 0#32),
    StableHlo.nullary main_c_606 (constantI S_ 32 255#32),
    StableHlo.TRef.unary (.of main_c_605) main_call61.v0 id,
    StableHlo.TRef.unary main_call61.v0 main_call61.v1 (broadcastInDim S131072 ![] bcast_S_S131072),
    StableHlo.TRef.binary main_call61.v1 (.of main_v1986) main_call61.v2 maxsi,
    StableHlo.TRef.unary (.of main_c_606) main_call61.v3 id,
    StableHlo.TRef.unary main_call61.v3 main_call61.v4 (broadcastInDim S131072 ![] bcast_S_S131072),
    StableHlo.TRef.binary main_call61.v4 main_call61.v2 main_call61.v5 minsi,
    StableHlo.unary main_v1980 main_v1988 (fptosi 32 : (⟨S131072, .f32⟩ : BufTy).Contents (Elt F) → (⟨S131072, .i32⟩ : BufTy).Contents (Elt F)),
    StableHlo.nullary main_c_607 (constantI S_ 32 0#32),
    StableHlo.nullary main_c_608 (constantI S_ 32 255#32),
    StableHlo.TRef.unary (.of main_c_607) main_call62.v0 id,
    StableHlo.TRef.unary main_call62.v0 main_call62.v1 (broadcastInDim S131072 ![] bcast_S_S131072),
    StableHlo.TRef.binary main_call62.v1 (.of main_v1988) main_call62.v2 maxsi,
    StableHlo.TRef.unary (.of main_c_608) main_call62.v3 id,
    StableHlo.TRef.unary main_call62.v3 main_call62.v4 (broadcastInDim S131072 ![] bcast_S_S131072),
    StableHlo.TRef.binary main_call62.v4 main_call62.v2 main_call62.v5 minsi,
    StableHlo.nullary main_c_609 (constantI S_ 32 1#32),
    StableHlo.unary main_c_609 main_v1990 (broadcastInDim S131072 ![] bcast_S_S131072 : (⟨S_, .i32⟩ : BufTy).Contents (Elt F) → (⟨S131072, .i32⟩ : BufTy).Contents (Elt F)),
    StableHlo.binary main_v1989 main_v1990 main_v1991 (addi : (⟨S131072, .i32⟩ : BufTy).Contents (Elt F) → (⟨S131072, .i32⟩ : BufTy).Contents (Elt F) → (⟨S131072, .i32⟩ : BufTy).Contents (Elt F)),
    StableHlo.nullary main_c_610 (constantI S_ 32 0#32),
    StableHlo.nullary main_c_611 (constantI S_ 32 255#32),
    StableHlo.TRef.unary (.of main_c_610) main_call63.v0 id,
    StableHlo.TRef.unary main_call63.v0 main_call63.v1 (broadcastInDim S131072 ![] bcast_S_S131072),
    StableHlo.TRef.binary main_call63.v1 (.of main_v1991) main_call63.v2 maxsi,
    StableHlo.TRef.unary (.of main_c_611) main_call63.v3 id,
    StableHlo.TRef.unary main_call63.v3 main_call63.v4 (broadcastInDim S131072 ![] bcast_S_S131072),
    StableHlo.TRef.binary main_call63.v4 main_call63.v2 main_call63.v5 minsi,
    StableHlo.nullary main_c_612 (constantI S_ 32 0#32),
    StableHlo.unary main_c_612 main_v1993 (broadcastInDim S131072 ![] bcast_S_S131072 : (⟨S_, .i32⟩ : BufTy).Contents (Elt F) → (⟨S131072, .i32⟩ : BufTy).Contents (Elt F)),
    StableHlo.binary main_v1989 main_v1993 main_v1994 (cmpi .slt : (⟨S131072, .i32⟩ : BufTy).Contents (Elt F) → (⟨S131072, .i32⟩ : BufTy).Contents (Elt F) → (⟨S131072, .i1⟩ : BufTy).Contents (Elt F)),
    StableHlo.nullary main_c_613 (constantI S_ 32 256#32),
    StableHlo.unary main_c_613 main_v1995 (broadcastInDim S131072 ![] bcast_S_S131072 : (⟨S_, .i32⟩ : BufTy).Contents (Elt F) → (⟨S131072, .i32⟩ : BufTy).Contents (Elt F)),
    StableHlo.binary main_v1989 main_v1995 main_v1996 (addi : (⟨S131072, .i32⟩ : BufTy).Contents (Elt F) → (⟨S131072, .i32⟩ : BufTy).Contents (Elt F) → (⟨S131072, .i32⟩ : BufTy).Contents (Elt F)),
    StableHlo.ternary main_v1994 main_v1996 main_v1989 main_v1997 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_614 (constantI S_ 32 0#32),
    StableHlo.unary main_c_614 main_v1998 (broadcastInDim S131072 ![] bcast_S_S131072 : (⟨S_, .i32⟩ : BufTy).Contents (Elt F) → (⟨S131072, .i32⟩ : BufTy).Contents (Elt F)),
    StableHlo.binary main_v1984 main_v1998 main_v1999 (cmpi .slt : (⟨S131072, .i32⟩ : BufTy).Contents (Elt F) → (⟨S131072, .i32⟩ : BufTy).Contents (Elt F) → (⟨S131072, .i1⟩ : BufTy).Contents (Elt F)),
    StableHlo.nullary main_c_615 (constantI S_ 32 256#32),
    StableHlo.unary main_c_615 main_v2000 (broadcastInDim S131072 ![] bcast_S_S131072 : (⟨S_, .i32⟩ : BufTy).Contents (Elt F) → (⟨S131072, .i32⟩ : BufTy).Contents (Elt F)),
    StableHlo.binary main_v1984 main_v2000 main_v2001 (addi : (⟨S131072, .i32⟩ : BufTy).Contents (Elt F) → (⟨S131072, .i32⟩ : BufTy).Contents (Elt F) → (⟨S131072, .i32⟩ : BufTy).Contents (Elt F)),
    StableHlo.ternary main_v1999 main_v2001 main_v1984 main_v2002 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v1997 main_v2003 (broadcastInDim S131072x1 ![0] bcast_S131072_S131072x1_0 : (⟨S131072, .i32⟩ : BufTy).Contents (Elt F) → (⟨S131072x1, .i32⟩ : BufTy).Contents (Elt F)),
    StableHlo.unary main_v2002 main_v2004 (broadcastInDim S131072x1 ![0] bcast_S131072_S131072x1_0 : (⟨S131072, .i32⟩ : BufTy).Contents (Elt F) → (⟨S131072x1, .i32⟩ : BufTy).Contents (Elt F)),
    StableHlo.binary main_v2003 main_v2004 main_v2005 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg17 main_v2005 main_v2006 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_616 (constantI S_ 32 0#32),
    StableHlo.unary main_c_616 main_v2007 (broadcastInDim S131072 ![] bcast_S_S131072 : (⟨S_, .i32⟩ : BufTy).Contents (Elt F) → (⟨S131072, .i32⟩ : BufTy).Contents (Elt F)),
    StableHlo.binary main_v1989 main_v2007 main_v2008 (cmpi .slt : (⟨S131072, .i32⟩ : BufTy).Contents (Elt F) → (⟨S131072, .i32⟩ : BufTy).Contents (Elt F) → (⟨S131072, .i1⟩ : BufTy).Contents (Elt F)),
    StableHlo.nullary main_c_617 (constantI S_ 32 256#32),
    StableHlo.unary main_c_617 main_v2009 (broadcastInDim S131072 ![] bcast_S_S131072 : (⟨S_, .i32⟩ : BufTy).Contents (Elt F) → (⟨S131072, .i32⟩ : BufTy).Contents (Elt F)),
    StableHlo.binary main_v1989 main_v2009 main_v2010 (addi : (⟨S131072, .i32⟩ : BufTy).Contents (Elt F) → (⟨S131072, .i32⟩ : BufTy).Contents (Elt F) → (⟨S131072, .i32⟩ : BufTy).Contents (Elt F)),
    StableHlo.ternary main_v2008 main_v2010 main_v1989 main_v2011 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_618 (constantI S_ 32 0#32),
    StableHlo.unary main_c_618 main_v2012 (broadcastInDim S131072 ![] bcast_S_S131072 : (⟨S_, .i32⟩ : BufTy).Contents (Elt F) → (⟨S131072, .i32⟩ : BufTy).Contents (Elt F)),
    StableHlo.binary main_v1987 main_v2012 main_v2013 (cmpi .slt : (⟨S131072, .i32⟩ : BufTy).Contents (Elt F) → (⟨S131072, .i32⟩ : BufTy).Contents (Elt F) → (⟨S131072, .i1⟩ : BufTy).Contents (Elt F)),
    StableHlo.nullary main_c_619 (constantI S_ 32 256#32),
    StableHlo.unary main_c_619 main_v2014 (broadcastInDim S131072 ![] bcast_S_S131072 : (⟨S_, .i32⟩ : BufTy).Contents (Elt F) → (⟨S131072, .i32⟩ : BufTy).Contents (Elt F)),
    StableHlo.binary main_v1987 main_v2014 main_v2015 (addi : (⟨S131072, .i32⟩ : BufTy).Contents (Elt F) → (⟨S131072, .i32⟩ : BufTy).Contents (Elt F) → (⟨S131072, .i32⟩ : BufTy).Contents (Elt F)),
    StableHlo.ternary main_v2013 main_v2015 main_v1987 main_v2016 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2011 main_v2017 (broadcastInDim S131072x1 ![0] bcast_S131072_S131072x1_0 : (⟨S131072, .i32⟩ : BufTy).Contents (Elt F) → (⟨S131072x1, .i32⟩ : BufTy).Contents (Elt F)) ]
theorem w43_eq (c : Dev nD) : main_part43 (F := F) c = seq w43 := rfl
theorem w43_sub : (w43 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
theorem w43_fresh : (w43 : List (HloOp τ sig (Elt F))).Forall fun op => op.fresh = ∅ := by
  simp only [List.Forall]; repeat' constructor
set_option maxHeartbeats 4000000 in
theorem w43_chain : Chain 2908 (w43 : List (HloOp τ sig (Elt F))) :=
  Chain.cons (stepAt_nullary 2908 _ _ rfl) <|
  Chain.cons (stepAt_unary 2909 _ _ _ rfl (by decide)) <|
  Chain.cons (stepAt_binary 2910 _ _ _ _ rfl (by decide) (by decide)) <|
  Chain.cons (stepAt_unary 2911 _ _ _ rfl (by decide)) <|
  Chain.cons (stepAt_unary 2912 _ _ _ rfl (by decide)) <|
  Chain.cons (stepAt_binary 2913 _ _ _ _ rfl (by decide) (by decide)) <|
  Chain.cons (stepAt_binary 2914 _ _ _ _ rfl (by decide) (by decide)) <|
  Chain.cons (stepAt_unary 2915 _ _ _ rfl (by decide)) <|
  Chain.cons (stepAt_nullary 2916 _ _ rfl) <|
  Chain.cons (stepAt_nullary 2917 _ _ rfl) <|
  Chain.cons (stepAt_unary 2918 _ _ _ rfl (by decide)) <|
  Chain.cons (stepAt_unary 2919 _ _ _ rfl (by decide)) <|
  Chain.cons (stepAt_binary 2920 _ _ _ _ rfl (by decide) (by decide)) <|
  Chain.cons (stepAt_unary 2921 _ _ _ rfl (by decide)) <|
  Chain.cons (stepAt_unary 2922 _ _ _ rfl (by decide)) <|
  Chain.cons (stepAt_binary 2923 _ _ _ _ rfl (by decide) (by decide)) <|
  Chain.cons (stepAt_nullary 2924 _ _ rfl) <|
  Chain.cons (stepAt_unary 2925 _ _ _ rfl (by decide)) <|
  Chain.cons (stepAt_binary 2926 _ _ _ _ rfl (by decide) (by decide)) <|
  Chain.cons (stepAt_nullary 2927 _ _ rfl) <|
  Chain.cons (stepAt_nullary 2928 _ _ rfl) <|
  Chain.cons (stepAt_unary 2929 _ _ _ rfl (by decide)) <|
  Chain.cons (stepAt_unary 2930 _ _ _ rfl (by decide)) <|
  Chain.cons (stepAt_binary 2931 _ _ _ _ rfl (by decide) (by decide)) <|
  Chain.cons (stepAt_unary 2932 _ _ _ rfl (by decide)) <|
  Chain.cons (stepAt_unary 2933 _ _ _ rfl (by decide)) <|
  Chain.cons (stepAt_binary 2934 _ _ _ _ rfl (by decide) (by decide)) <|
  Chain.cons (stepAt_unary 2935 _ _ _ rfl (by decide)) <|
  Chain.cons (stepAt_nullary 2936 _ _ rfl) <|
  Chain.cons (stepAt_nullary 2937 _ _ rfl) <|
  Chain.cons (stepAt_unary 2938 _ _ _ rfl (by decide)) <|
  Chain.cons (stepAt_unary 2939 _ _ _ rfl (by decide)) <|
  Chain.cons (stepAt_binary 2940 _ _ _ _ rfl (by decide) (by decide)) <|
  Chain.cons (stepAt_unary 2941 _ _ _ rfl (by decide)) <|
  Chain.cons (stepAt_unary 2942 _ _ _ rfl (by decide)) <|
  Chain.cons (stepAt_binary 2943 _ _ _ _ rfl (by decide) (by decide)) <|
  Chain.cons (stepAt_nullary 2944 _ _ rfl) <|
  Chain.cons (stepAt_unary 2945 _ _ _ rfl (by decide)) <|
  Chain.cons (stepAt_binary 2946 _ _ _ _ rfl (by decide) (by decide)) <|
  Chain.cons (stepAt_nullary 2947 _ _ rfl) <|
  Chain.cons (stepAt_nullary 2948 _ _ rfl) <|
  Chain.cons (stepAt_unary 2949 _ _ _ rfl (by decide)) <|
  Chain.cons (stepAt_unary 2950 _ _ _ rfl (by decide)) <|
  Chain.cons (stepAt_binary 2951 _ _ _ _ rfl (by decide) (by decide)) <|
  Chain.cons (stepAt_unary 2952 _ _ _ rfl (by decide)) <|
  Chain.cons (stepAt_unary 2953 _ _ _ rfl (by decide)) <|
  Chain.cons (stepAt_binary 2954 _ _ _ _ rfl (by decide) (by decide)) <|
  Chain.cons (stepAt_nullary 2955 _ _ rfl) <|
  Chain.cons (stepAt_unary 2956 _ _ _ rfl (by decide)) <|
  Chain.cons (stepAt_binary 2957 _ _ _ _ rfl (by decide) (by decide)) <|
  Chain.cons (stepAt_nullary 2958 _ _ rfl) <|
  Chain.cons (stepAt_unary 2959 _ _ _ rfl (by decide)) <|
  Chain.cons (stepAt_binary 2960 _ _ _ _ rfl (by decide) (by decide)) <|
  Chain.cons (stepAt_ternary 2961 _ _ _ _ _ rfl (by decide) (by decide) (by decide)) <|
  Chain.cons (stepAt_nullary 2962 _ _ rfl) <|
  Chain.cons (stepAt_unary 2963 _ _ _ rfl (by decide)) <|
  Chain.cons (stepAt_binary 2964 _ _ _ _ rfl (by decide) (by decide)) <|
  Chain.cons (stepAt_nullary 2965 _ _ rfl) <|
  Chain.cons (stepAt_unary 2966 _ _ _ rfl (by decide)) <|
  Chain.cons (stepAt_binary 2967 _ _ _ _ rfl (by decide) (by decide)) <|
  Chain.cons (stepAt_ternary 2968 _ _ _ _ _ rfl (by decide) (by decide) (by decide)) <|
  Chain.cons (stepAt_unary 2969 _ _ _ rfl (by decide)) <|
  Chain.cons (stepAt_unary 2970 _ _ _ rfl (by decide)) <|
  Chain.cons (stepAt_binary 2971 _ _ _ _ rfl (by decide) (by decide)) <|
  Chain.cons (stepAt_binary 2972 _ _ _ _ rfl (by decide) (by decide)) <|
  Chain.cons (stepAt_nullary 2973 _ _ rfl) <|
  Chain.cons (stepAt_unary 2974 _ _ _ rfl (by decide)) <|
  Chain.cons (stepAt_binary 2975 _ _ _ _ rfl (by decide) (by decide)) <|
  Chain.cons (stepAt_nullary 2976 _ _ rfl) <|
  Chain.cons (stepAt_unary 2977 _ _ _ rfl (by decide)) <|
  Chain.cons (stepAt_binary 2978 _ _ _ _ rfl (by decide) (by decide)) <|
  Chain.cons (stepAt_ternary 2979 _ _ _ _ _ rfl (by decide) (by decide) (by decide)) <|
  Chain.cons (stepAt_nullary 2980 _ _ rfl) <|
  Chain.cons (stepAt_unary 2981 _ _ _ rfl (by decide)) <|
  Chain.cons (stepAt_binary 2982 _ _ _ _ rfl (by decide) (by decide)) <|
  Chain.cons (stepAt_nullary 2983 _ _ rfl) <|
  Chain.cons (stepAt_unary 2984 _ _ _ rfl (by decide)) <|
  Chain.cons (stepAt_binary 2985 _ _ _ _ rfl (by decide) (by decide)) <|
  Chain.cons (stepAt_ternary 2986 _ _ _ _ _ rfl (by decide) (by decide) (by decide)) <|
  Chain.cons (stepAt_unary 2987 _ _ _ rfl (by decide)) <|
  Chain.nil
theorem w43_length : (w43 : List (HloOp τ sig (Elt F))).length = 80 := rfl

/-- Window 44 of @main: 60 operations, writing buffers 2988 … 3047. -/
abbrev w44 : List (HloOp τ sig (Elt F)) :=
  [ StableHlo.unary main_v2016 main_v2018 (broadcastInDim S131072x1 ![0] bcast_S131072_S131072x1_0 : (⟨S131072, .i32⟩ : BufTy).Contents (Elt F) → (⟨S131072x1, .i32⟩ : BufTy).Contents (Elt F)),
    StableHlo.binary main_v2017 main_v2018 main_v2019 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg17 main_v2019 main_v2020 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_620 (constantI S_ 32 0#32),
    StableHlo.unary main_c_620 main_v2021 (broadcastInDim S131072 ![] bcast_S_S131072 : (⟨S_, .i32⟩ : BufTy).Contents (Elt F) → (⟨S131072, .i32⟩ : BufTy).Contents (Elt F)),
    StableHlo.binary main_v1992 main_v2021 main_v2022 (cmpi .slt : (⟨S131072, .i32⟩ : BufTy).Contents (Elt F) → (⟨S131072, .i32⟩ : BufTy).Contents (Elt F) → (⟨S131072, .i1⟩ : BufTy).Contents (Elt F)),
    StableHlo.nullary main_c_621 (constantI S_ 32 256#32),
    StableHlo.unary main_c_621 main_v2023 (broadcastInDim S131072 ![] bcast_S_S131072 : (⟨S_, .i32⟩ : BufTy).Contents (Elt F) → (⟨S131072, .i32⟩ : BufTy).Contents (Elt F)),
    StableHlo.binary main_v1992 main_v2023 main_v2024 (addi : (⟨S131072, .i32⟩ : BufTy).Contents (Elt F) → (⟨S131072, .i32⟩ : BufTy).Contents (Elt F) → (⟨S131072, .i32⟩ : BufTy).Contents (Elt F)),
    StableHlo.ternary main_v2022 main_v2024 main_v1992 main_v2025 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_622 (constantI S_ 32 0#32),
    StableHlo.unary main_c_622 main_v2026 (broadcastInDim S131072 ![] bcast_S_S131072 : (⟨S_, .i32⟩ : BufTy).Contents (Elt F) → (⟨S131072, .i32⟩ : BufTy).Contents (Elt F)),
    StableHlo.binary main_v1984 main_v2026 main_v2027 (cmpi .slt : (⟨S131072, .i32⟩ : BufTy).Contents (Elt F) → (⟨S131072, .i32⟩ : BufTy).Contents (Elt F) → (⟨S131072, .i1⟩ : BufTy).Contents (Elt F)),
    StableHlo.nullary main_c_623 (constantI S_ 32 256#32),
    StableHlo.unary main_c_623 main_v2028 (broadcastInDim S131072 ![] bcast_S_S131072 : (⟨S_, .i32⟩ : BufTy).Contents (Elt F) → (⟨S131072, .i32⟩ : BufTy).Contents (Elt F)),
    StableHlo.binary main_v1984 main_v2028 main_v2029 (addi : (⟨S131072, .i32⟩ : BufTy).Contents (Elt F) → (⟨S131072, .i32⟩ : BufTy).Contents (Elt F) → (⟨S131072, .i32⟩ : BufTy).Contents (Elt F)),
    StableHlo.ternary main_v2027 main_v2029 main_v1984 main_v2030 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2025 main_v2031 (broadcastInDim S131072x1 ![0] bcast_S131072_S131072x1_0 : (⟨S131072, .i32⟩ : BufTy).Contents (Elt F) → (⟨S131072x1, .i32⟩ : BufTy).Contents (Elt F)),
    StableHlo.unary main_v2030 main_v2032 (broadcastInDim S131072x1 ![0] bcast_S131072_S131072x1_0 : (⟨S131072, .i32⟩ : BufTy).Contents (Elt F) → (⟨S131072x1, .i32⟩ : BufTy).Contents (Elt F)),
    StableHlo.binary main_v2031 main_v2032 main_v2033 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg17 main_v2033 main_v2034 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_c_624 (constantI S_ 32 0#32),
    StableHlo.unary main_c_624 main_v2035 (broadcastInDim S131072 ![] bcast_S_S131072 : (⟨S_, .i32⟩ : BufTy).Contents (Elt F) → (⟨S131072, .i32⟩ : BufTy).Contents (Elt F)),
    StableHlo.binary main_v1992 main_v2035 main_v2036 (cmpi .slt : (⟨S131072, .i32⟩ : BufTy).Contents (Elt F) → (⟨S131072, .i32⟩ : BufTy).Contents (Elt F) → (⟨S131072, .i1⟩ : BufTy).Contents (Elt F)),
    StableHlo.nullary main_c_625 (constantI S_ 32 256#32),
    StableHlo.unary main_c_625 main_v2037 (broadcastInDim S131072 ![] bcast_S_S131072 : (⟨S_, .i32⟩ : BufTy).Contents (Elt F) → (⟨S131072, .i32⟩ : BufTy).Contents (Elt F)),
    StableHlo.binary main_v1992 main_v2037 main_v2038 (addi : (⟨S131072, .i32⟩ : BufTy).Contents (Elt F) → (⟨S131072, .i32⟩ : BufTy).Contents (Elt F) → (⟨S131072, .i32⟩ : BufTy).Contents (Elt F)),
    StableHlo.ternary main_v2036 main_v2038 main_v1992 main_v2039 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_626 (constantI S_ 32 0#32),
    StableHlo.unary main_c_626 main_v2040 (broadcastInDim S131072 ![] bcast_S_S131072 : (⟨S_, .i32⟩ : BufTy).Contents (Elt F) → (⟨S131072, .i32⟩ : BufTy).Contents (Elt F)),
    StableHlo.binary main_v1987 main_v2040 main_v2041 (cmpi .slt : (⟨S131072, .i32⟩ : BufTy).Contents (Elt F) → (⟨S131072, .i32⟩ : BufTy).Contents (Elt F) → (⟨S131072, .i1⟩ : BufTy).Contents (Elt F)),
    StableHlo.nullary main_c_627 (constantI S_ 32 256#32),
    StableHlo.unary main_c_627 main_v2042 (broadcastInDim S131072 ![] bcast_S_S131072 : (⟨S_, .i32⟩ : BufTy).Contents (Elt F) → (⟨S131072, .i32⟩ : BufTy).Contents (Elt F)),
    StableHlo.binary main_v1987 main_v2042 main_v2043 (addi : (⟨S131072, .i32⟩ : BufTy).Contents (Elt F) → (⟨S131072, .i32⟩ : BufTy).Contents (Elt F) → (⟨S131072, .i32⟩ : BufTy).Contents (Elt F)),
    StableHlo.ternary main_v2041 main_v2043 main_v1987 main_v2044 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2039 main_v2045 (broadcastInDim S131072x1 ![0] bcast_S131072_S131072x1_0 : (⟨S131072, .i32⟩ : BufTy).Contents (Elt F) → (⟨S131072x1, .i32⟩ : BufTy).Contents (Elt F)),
    StableHlo.unary main_v2044 main_v2046 (broadcastInDim S131072x1 ![0] bcast_S131072_S131072x1_0 : (⟨S131072, .i32⟩ : BufTy).Contents (Elt F) → (⟨S131072x1, .i32⟩ : BufTy).Contents (Elt F)),
    StableHlo.binary main_v2045 main_v2046 main_v2047 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg17 main_v2047 main_v2048 ((fun x i => Host.gather gather_S32x256x256_S131072x2_S32x131072_0_12_n_n_12_1_3211 x i) : (⟨S32x256x256, .f32⟩ : BufTy).Contents (Elt F) → (⟨S131072x2, .i32⟩ : BufTy).Contents (Elt F) → (⟨S32x131072, .f32⟩ : BufTy).Contents (Elt F)),
    StableHlo.nullary main_cst_628 (constant S_ .f32 0x3F800000#32),
    StableHlo.unary main_cst_628 main_v2049 (broadcastInDim S131072 ![] bcast_S_S131072 : (⟨S_, .f32⟩ : BufTy).Contents (Elt F) → (⟨S131072, .f32⟩ : BufTy).Contents (Elt F)),
    StableHlo.binary main_v2049 main_v1981 main_v2050 (subf : (⟨S131072, .f32⟩ : BufTy).Contents (Elt F) → (⟨S131072, .f32⟩ : BufTy).Contents (Elt F) → (⟨S131072, .f32⟩ : BufTy).Contents (Elt F)),
    StableHlo.unary main_v2050 main_v2051 (broadcastInDim S1x131072 ![1] bcast_S131072_S1x131072_1 : (⟨S131072, .f32⟩ : BufTy).Contents (Elt F) → (⟨S1x131072, .f32⟩ : BufTy).Contents (Elt F)),
    StableHlo.unary main_v2051 main_v2052 (broadcastInDim S32x131072 ![0, 1] bcast_S1x131072_S32x131072_0_1 : (⟨S1x131072, .f32⟩ : BufTy).Contents (Elt F) → (⟨S32x131072, .f32⟩ : BufTy).Contents (Elt F)),
    StableHlo.binary main_v2006 main_v2052 main_v2053 (mulf : (⟨S32x131072, .f32⟩ : BufTy).Contents (Elt F) → (⟨S32x131072, .f32⟩ : BufTy).Contents (Elt F) → (⟨S32x131072, .f32⟩ : BufTy).Contents (Elt F)),
    StableHlo.nullary main_cst_629 (constant S_ .f32 0x3F800000#32),
    StableHlo.unary main_cst_629 main_v2054 (broadcastInDim S131072 ![] bcast_S_S131072 : (⟨S_, .f32⟩ : BufTy).Contents (Elt F) → (⟨S131072, .f32⟩ : BufTy).Contents (Elt F)),
    StableHlo.binary main_v2054 main_v1982 main_v2055 (subf : (⟨S131072, .f32⟩ : BufTy).Contents (Elt F) → (⟨S131072, .f32⟩ : BufTy).Contents (Elt F) → (⟨S131072, .f32⟩ : BufTy).Contents (Elt F)),
    StableHlo.unary main_v2055 main_v2056 (broadcastInDim S1x131072 ![1] bcast_S131072_S1x131072_1 : (⟨S131072, .f32⟩ : BufTy).Contents (Elt F) → (⟨S1x131072, .f32⟩ : BufTy).Contents (Elt F)),
    StableHlo.unary main_v2056 main_v2057 (broadcastInDim S32x131072 ![0, 1] bcast_S1x131072_S32x131072_0_1 : (⟨S1x131072, .f32⟩ : BufTy).Contents (Elt F) → (⟨S32x131072, .f32⟩ : BufTy).Contents (Elt F)),
    StableHlo.binary main_v2053 main_v2057 main_v2058 (mulf : (⟨S32x131072, .f32⟩ : BufTy).Contents (Elt F) → (⟨S32x131072, .f32⟩ : BufTy).Contents (Elt F) → (⟨S32x131072, .f32⟩ : BufTy).Contents (Elt F)),
    StableHlo.unary main_v1981 main_v2059 (broadcastInDim S1x131072 ![1] bcast_S131072_S1x131072_1 : (⟨S131072, .f32⟩ : BufTy).Contents (Elt F) → (⟨S1x131072, .f32⟩ : BufTy).Contents (Elt F)),
    StableHlo.unary main_v2059 main_v2060 (broadcastInDim S32x131072 ![0, 1] bcast_S1x131072_S32x131072_0_1 : (⟨S1x131072, .f32⟩ : BufTy).Contents (Elt F) → (⟨S32x131072, .f32⟩ : BufTy).Contents (Elt F)),
    StableHlo.binary main_v2020 main_v2060 main_v2061 (mulf : (⟨S32x131072, .f32⟩ : BufTy).Contents (Elt F) → (⟨S32x131072, .f32⟩ : BufTy).Contents (Elt F) → (⟨S32x131072, .f32⟩ : BufTy).Contents (Elt F)),
    StableHlo.nullary main_cst_630 (constant S_ .f32 0x3F800000#32),
    StableHlo.unary main_cst_630 main_v2062 (broadcastInDim S131072 ![] bcast_S_S131072 : (⟨S_, .f32⟩ : BufTy).Contents (Elt F) → (⟨S131072, .f32⟩ : BufTy).Contents (Elt F)),
    StableHlo.binary main_v2062 main_v1982 main_v2063 (subf : (⟨S131072, .f32⟩ : BufTy).Contents (Elt F) → (⟨S131072, .f32⟩ : BufTy).Contents (Elt F) → (⟨S131072, .f32⟩ : BufTy).Contents (Elt F)),
    StableHlo.unary main_v2063 main_v2064 (broadcastInDim S1x131072 ![1] bcast_S131072_S1x131072_1 : (⟨S131072, .f32⟩ : BufTy).Contents (Elt F) → (⟨S1x131072, .f32⟩ : BufTy).Contents (Elt F)),
    StableHlo.unary main_v2064 main_v2065 (broadcastInDim S32x131072 ![0, 1] bcast_S1x131072_S32x131072_0_1 : (⟨S1x131072, .f32⟩ : BufTy).Contents (Elt F) → (⟨S32x131072, .f32⟩ : BufTy).Contents (Elt F)),
    StableHlo.binary main_v2061 main_v2065 main_v2066 (mulf : (⟨S32x131072, .f32⟩ : BufTy).Contents (Elt F) → (⟨S32x131072, .f32⟩ : BufTy).Contents (Elt F) → (⟨S32x131072, .f32⟩ : BufTy).Contents (Elt F)) ]
theorem w44_eq (c : Dev nD) : main_part44 (F := F) c = seq w44 := rfl
theorem w44_sub : (w44 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub ..⟩
theorem w44_fresh : (w44 : List (HloOp τ sig (Elt F))).Forall fun op => op.fresh = ∅ := by
  simp only [List.Forall]; repeat' constructor
set_option maxHeartbeats 4000000 in
theorem w44_chain : Chain 2988 (w44 : List (HloOp τ sig (Elt F))) :=
  Chain.cons (stepAt_unary 2988 _ _ _ rfl (by decide)) <|
  Chain.cons (stepAt_binary 2989 _ _ _ _ rfl (by decide) (by decide)) <|
  Chain.cons (stepAt_binary 2990 _ _ _ _ rfl (by decide) (by decide)) <|
  Chain.cons (stepAt_nullary 2991 _ _ rfl) <|
  Chain.cons (stepAt_unary 2992 _ _ _ rfl (by decide)) <|
  Chain.cons (stepAt_binary 2993 _ _ _ _ rfl (by decide) (by decide)) <|
  Chain.cons (stepAt_nullary 2994 _ _ rfl) <|
  Chain.cons (stepAt_unary 2995 _ _ _ rfl (by decide)) <|
  Chain.cons (stepAt_binary 2996 _ _ _ _ rfl (by decide) (by decide)) <|
  Chain.cons (stepAt_ternary 2997 _ _ _ _ _ rfl (by decide) (by decide) (by decide)) <|
  Chain.cons (stepAt_nullary 2998 _ _ rfl) <|
  Chain.cons (stepAt_unary 2999 _ _ _ rfl (by decide)) <|
  Chain.cons (stepAt_binary 3000 _ _ _ _ rfl (by decide) (by decide)) <|
  Chain.cons (stepAt_nullary 3001 _ _ rfl) <|
  Chain.cons (stepAt_unary 3002 _ _ _ rfl (by decide)) <|
  Chain.cons (stepAt_binary 3003 _ _ _ _ rfl (by decide) (by decide)) <|
  Chain.cons (stepAt_ternary 3004 _ _ _ _ _ rfl (by decide) (by decide) (by decide)) <|
  Chain.cons (stepAt_unary 3005 _ _ _ rfl (by decide)) <|
  Chain.cons (stepAt_unary 3006 _ _ _ rfl (by decide)) <|
  Chain.cons (stepAt_binary 3007 _ _ _ _ rfl (by decide) (by decide)) <|
  Chain.cons (stepAt_binary 3008 _ _ _ _ rfl (by decide) (by decide)) <|
  Chain.cons (stepAt_nullary 3009 _ _ rfl) <|
  Chain.cons (stepAt_unary 3010 _ _ _ rfl (by decide)) <|
  Chain.cons (stepAt_binary 3011 _ _ _ _ rfl (by decide) (by decide)) <|
  Chain.cons (stepAt_nullary 3012 _ _ rfl) <|
  Chain.cons (stepAt_unary 3013 _ _ _ rfl (by decide)) <|
  Chain.cons (stepAt_binary 3014 _ _ _ _ rfl (by decide) (by decide)) <|
  Chain.cons (stepAt_ternary 3015 _ _ _ _ _ rfl (by decide) (by decide) (by decide)) <|
  Chain.cons (stepAt_nullary 3016 _ _ rfl) <|
  Chain.cons (stepAt_unary 3017 _ _ _ rfl (by decide)) <|
  Chain.cons (stepAt_binary 3018 _ _ _ _ rfl (by decide) (by decide)) <|
  Chain.cons (stepAt_nullary 3019 _ _ rfl) <|
  Chain.cons (stepAt_unary 3020 _ _ _ rfl (by decide)) <|
  Chain.cons (stepAt_binary 3021 _ _ _ _ rfl (by decide) (by decide)) <|
  Chain.cons (stepAt_ternary 3022 _ _ _ _ _ rfl (by decide) (by decide) (by decide)) <|
  Chain.cons (stepAt_unary 3023 _ _ _ rfl (by decide)) <|
  Chain.cons (stepAt_unary 3024 _ _ _ rfl (by decide)) <|
  Chain.cons (stepAt_binary 3025 _ _ _ _ rfl (by decide) (by decide)) <|
  Chain.cons (stepAt_binary 3026 _ _ _ _ rfl (by decide) (by decide)) <|
  Chain.cons (stepAt_nullary 3027 _ _ rfl) <|
  Chain.cons (stepAt_unary 3028 _ _ _ rfl (by decide)) <|
  Chain.cons (stepAt_binary 3029 _ _ _ _ rfl (by decide) (by decide)) <|
  Chain.cons (stepAt_unary 3030 _ _ _ rfl (by decide)) <|
  Chain.cons (stepAt_unary 3031 _ _ _ rfl (by decide)) <|
  Chain.cons (stepAt_binary 3032 _ _ _ _ rfl (by decide) (by decide)) <|
  Chain.cons (stepAt_nullary 3033 _ _ rfl) <|
  Chain.cons (stepAt_unary 3034 _ _ _ rfl (by decide)) <|
  Chain.cons (stepAt_binary 3035 _ _ _ _ rfl (by decide) (by decide)) <|
  Chain.cons (stepAt_unary 3036 _ _ _ rfl (by decide)) <|
  Chain.cons (stepAt_unary 3037 _ _ _ rfl (by decide)) <|
  Chain.cons (stepAt_binary 3038 _ _ _ _ rfl (by decide) (by decide)) <|
  Chain.cons (stepAt_unary 3039 _ _ _ rfl (by decide)) <|
  Chain.cons (stepAt_unary 3040 _ _ _ rfl (by decide)) <|
  Chain.cons (stepAt_binary 3041 _ _ _ _ rfl (by decide) (by decide)) <|
  Chain.cons (stepAt_nullary 3042 _ _ rfl) <|
  Chain.cons (stepAt_unary 3043 _ _ _ rfl (by decide)) <|
  Chain.cons (stepAt_binary 3044 _ _ _ _ rfl (by decide) (by decide)) <|
  Chain.cons (stepAt_unary 3045 _ _ _ rfl (by decide)) <|
  Chain.cons (stepAt_unary 3046 _ _ _ rfl (by decide)) <|
  Chain.cons (stepAt_binary 3047 _ _ _ _ rfl (by decide) (by decide)) <|
  Chain.nil
theorem w44_length : (w44 : List (HloOp τ sig (Elt F))).length = 60 := rfl

/-- Window 45 of @main: 65 operations, writing buffers 3048 … 3112. -/
abbrev w45 : List (HloOp τ sig (Elt F)) :=
  [ StableHlo.binary main_v2058 main_v2066 main_v2067 (addf : (⟨S32x131072, .f32⟩ : BufTy).Contents (Elt F) → (⟨S32x131072, .f32⟩ : BufTy).Contents (Elt F) → (⟨S32x131072, .f32⟩ : BufTy).Contents (Elt F)),
    StableHlo.nullary main_cst_631 (constant S_ .f32 0x3F800000#32),
    StableHlo.unary main_cst_631 main_v2068 (broadcastInDim S131072 ![] bcast_S_S131072 : (⟨S_, .f32⟩ : BufTy).Contents (Elt F) → (⟨S131072, .f32⟩ : BufTy).Contents (Elt F)),
    StableHlo.binary main_v2068 main_v1981 main_v2069 (subf : (⟨S131072, .f32⟩ : BufTy).Contents (Elt F) → (⟨S131072, .f32⟩ : BufTy).Contents (Elt F) → (⟨S131072, .f32⟩ : BufTy).Contents (Elt F)),
    StableHlo.unary main_v2069 main_v2070 (broadcastInDim S1x131072 ![1] bcast_S131072_S1x131072_1 : (⟨S131072, .f32⟩ : BufTy).Contents (Elt F) → (⟨S1x131072, .f32⟩ : BufTy).Contents (Elt F)),
    StableHlo.unary main_v2070 main_v2071 (broadcastInDim S32x131072 ![0, 1] bcast_S1x131072_S32x131072_0_1 : (⟨S1x131072, .f32⟩ : BufTy).Contents (Elt F) → (⟨S32x131072, .f32⟩ : BufTy).Contents (Elt F)),
    StableHlo.binary main_v2034 main_v2071 main_v2072 (mulf : (⟨S32x131072, .f32⟩ : BufTy).Contents (Elt F) → (⟨S32x131072, .f32⟩ : BufTy).Contents (Elt F) → (⟨S32x131072, .f32⟩ : BufTy).Contents (Elt F)),
    StableHlo.unary main_v1982 main_v2073 (broadcastInDim S1x131072 ![1] bcast_S131072_S1x131072_1 : (⟨S131072, .f32⟩ : BufTy).Contents (Elt F) → (⟨S1x131072, .f32⟩ : BufTy).Contents (Elt F)),
    StableHlo.unary main_v2073 main_v2074 (broadcastInDim S32x131072 ![0, 1] bcast_S1x131072_S32x131072_0_1 : (⟨S1x131072, .f32⟩ : BufTy).Contents (Elt F) → (⟨S32x131072, .f32⟩ : BufTy).Contents (Elt F)),
    StableHlo.binary main_v2072 main_v2074 main_v2075 (mulf : (⟨S32x131072, .f32⟩ : BufTy).Contents (Elt F) → (⟨S32x131072, .f32⟩ : BufTy).Contents (Elt F) → (⟨S32x131072, .f32⟩ : BufTy).Contents (Elt F)),
    StableHlo.binary main_v2067 main_v2075 main_v2076 (addf : (⟨S32x131072, .f32⟩ : BufTy).Contents (Elt F) → (⟨S32x131072, .f32⟩ : BufTy).Contents (Elt F) → (⟨S32x131072, .f32⟩ : BufTy).Contents (Elt F)),
    StableHlo.unary main_v1981 main_v2077 (broadcastInDim S1x131072 ![1] bcast_S131072_S1x131072_1 : (⟨S131072, .f32⟩ : BufTy).Contents (Elt F) → (⟨S1x131072, .f32⟩ : BufTy).Contents (Elt F)),
    StableHlo.unary main_v2077 main_v2078 (broadcastInDim S32x131072 ![0, 1] bcast_S1x131072_S32x131072_0_1 : (⟨S1x131072, .f32⟩ : BufTy).Contents (Elt F) → (⟨S32x131072, .f32⟩ : BufTy).Contents (Elt F)),
    StableHlo.binary main_v2048 main_v2078 main_v2079 (mulf : (⟨S32x131072, .f32⟩ : BufTy).Contents (Elt F) → (⟨S32x131072, .f32⟩ : BufTy).Contents (Elt F) → (⟨S32x131072, .f32⟩ : BufTy).Contents (Elt F)),
    StableHlo.unary main_v1982 main_v2080 (broadcastInDim S1x131072 ![1] bcast_S131072_S1x131072_1 : (⟨S131072, .f32⟩ : BufTy).Contents (Elt F) → (⟨S1x131072, .f32⟩ : BufTy).Contents (Elt F)),
    StableHlo.unary main_v2080 main_v2081 (broadcastInDim S32x131072 ![0, 1] bcast_S1x131072_S32x131072_0_1 : (⟨S1x131072, .f32⟩ : BufTy).Contents (Elt F) → (⟨S32x131072, .f32⟩ : BufTy).Contents (Elt F)),
    StableHlo.binary main_v2079 main_v2081 main_v2082 (mulf : (⟨S32x131072, .f32⟩ : BufTy).Contents (Elt F) → (⟨S32x131072, .f32⟩ : BufTy).Contents (Elt F) → (⟨S32x131072, .f32⟩ : BufTy).Contents (Elt F)),
    StableHlo.binary main_v2076 main_v2082 main_v2083 (addf : (⟨S32x131072, .f32⟩ : BufTy).Contents (Elt F) → (⟨S32x131072, .f32⟩ : BufTy).Contents (Elt F) → (⟨S32x131072, .f32⟩ : BufTy).Contents (Elt F)),
    StableHlo.unary main_v2083 main_v2084 ((transpose S131072x32 [1, 0] · transposes_S32x131072_S131072x32_1_0) : (⟨S32x131072, .f32⟩ : BufTy).Contents (Elt F) → (⟨S131072x32, .f32⟩ : BufTy).Contents (Elt F)),
    StableHlo.binary main_v1955 main_v2084 main_v2085 (mulf : (⟨S131072x32, .f32⟩ : BufTy).Contents (Elt F) → (⟨S131072x32, .f32⟩ : BufTy).Contents (Elt F) → (⟨S131072x32, .f32⟩ : BufTy).Contents (Elt F)),
    StableHlo.nullary main_c_632 (constantI S_ 32 0#32),
    StableHlo.unary main_c_632 main_v2086 (broadcastInDim S2 ![] bcast_S_S2 : (⟨S_, .i32⟩ : BufTy).Contents (Elt F) → (⟨S2, .i32⟩ : BufTy).Contents (Elt F)),
    StableHlo.binary main_c_15 main_v2086 main_v2087 (cmpi .slt : (⟨S2, .i32⟩ : BufTy).Contents (Elt F) → (⟨S2, .i32⟩ : BufTy).Contents (Elt F) → (⟨S2, .i1⟩ : BufTy).Contents (Elt F)),
    StableHlo.nullary main_c_633 (constantI S_ 32 4#32),
    StableHlo.unary main_c_633 main_v2088 (broadcastInDim S2 ![] bcast_S_S2 : (⟨S_, .i32⟩ : BufTy).Contents (Elt F) → (⟨S2, .i32⟩ : BufTy).Contents (Elt F)),
    StableHlo.binary main_c_15 main_v2088 main_v2089 (addi : (⟨S2, .i32⟩ : BufTy).Contents (Elt F) → (⟨S2, .i32⟩ : BufTy).Contents (Elt F) → (⟨S2, .i32⟩ : BufTy).Contents (Elt F)),
    StableHlo.ternary main_v2087 main_v2089 main_c_15 main_v2090 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2090 main_v2091 (broadcastInDim S2x1 ![0] bcast_S2_S2x1_0 : (⟨S2, .i32⟩ : BufTy).Contents (Elt F) → (⟨S2x1, .i32⟩ : BufTy).Contents (Elt F)),
    StableHlo.binary main_v8 main_v2091 main_v2092 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2092 main_v2093 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2093 main_v2094 rfl shapeCasts_S131072x1_S131072,
    StableHlo.nullary main_cst_634 (constant S_ .f32 0x3F800000#32),
    StableHlo.unary main_cst_634 main_v2095 (broadcastInDim S131072 ![] bcast_S_S131072 : (⟨S_, .f32⟩ : BufTy).Contents (Elt F) → (⟨S131072, .f32⟩ : BufTy).Contents (Elt F)),
    StableHlo.binary main_v2094 main_v2095 main_v2096 (addf : (⟨S131072, .f32⟩ : BufTy).Contents (Elt F) → (⟨S131072, .f32⟩ : BufTy).Contents (Elt F) → (⟨S131072, .f32⟩ : BufTy).Contents (Elt F)),
    StableHlo.nullary main_cst_635 (constant S_ .f32 0x3F000000#32),
    StableHlo.unary main_cst_635 main_v2097 (broadcastInDim S131072 ![] bcast_S_S131072 : (⟨S_, .f32⟩ : BufTy).Contents (Elt F) → (⟨S131072, .f32⟩ : BufTy).Contents (Elt F)),
    StableHlo.binary main_v2096 main_v2097 main_v2098 (mulf : (⟨S131072, .f32⟩ : BufTy).Contents (Elt F) → (⟨S131072, .f32⟩ : BufTy).Contents (Elt F) → (⟨S131072, .f32⟩ : BufTy).Contents (Elt F)),
    StableHlo.nullary main_cst_636 (constant S_ .f32 0x437F0000#32),
    StableHlo.unary main_cst_636 main_v2099 (broadcastInDim S131072 ![] bcast_S_S131072 : (⟨S_, .f32⟩ : BufTy).Contents (Elt F) → (⟨S131072, .f32⟩ : BufTy).Contents (Elt F)),
    StableHlo.binary main_v2098 main_v2099 main_v2100 (mulf : (⟨S131072, .f32⟩ : BufTy).Contents (Elt F) → (⟨S131072, .f32⟩ : BufTy).Contents (Elt F) → (⟨S131072, .f32⟩ : BufTy).Contents (Elt F)),
    StableHlo.unary main_v2092 main_v2101 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2101 main_v2102 rfl shapeCasts_S131072x1_S131072,
    StableHlo.nullary main_cst_637 (constant S_ .f32 0x3F800000#32),
    StableHlo.unary main_cst_637 main_v2103 (broadcastInDim S131072 ![] bcast_S_S131072 : (⟨S_, .f32⟩ : BufTy).Contents (Elt F) → (⟨S131072, .f32⟩ : BufTy).Contents (Elt F)),
    StableHlo.binary main_v2102 main_v2103 main_v2104 (addf : (⟨S131072, .f32⟩ : BufTy).Contents (Elt F) → (⟨S131072, .f32⟩ : BufTy).Contents (Elt F) → (⟨S131072, .f32⟩ : BufTy).Contents (Elt F)),
    StableHlo.nullary main_cst_638 (constant S_ .f32 0x3F000000#32),
    StableHlo.unary main_cst_638 main_v2105 (broadcastInDim S131072 ![] bcast_S_S131072 : (⟨S_, .f32⟩ : BufTy).Contents (Elt F) → (⟨S131072, .f32⟩ : BufTy).Contents (Elt F)),
    StableHlo.binary main_v2104 main_v2105 main_v2106 (mulf : (⟨S131072, .f32⟩ : BufTy).Contents (Elt F) → (⟨S131072, .f32⟩ : BufTy).Contents (Elt F) → (⟨S131072, .f32⟩ : BufTy).Contents (Elt F)),
    StableHlo.nullary main_cst_639 (constant S_ .f32 0x43150000#32),
    StableHlo.unary main_cst_639 main_v2107 (broadcastInDim S131072 ![] bcast_S_S131072 : (⟨S_, .f32⟩ : BufTy).Contents (Elt F) → (⟨S131072, .f32⟩ : BufTy).Contents (Elt F)),
    StableHlo.binary main_v2106 main_v2107 main_v2108 (mulf : (⟨S131072, .f32⟩ : BufTy).Contents (Elt F) → (⟨S131072, .f32⟩ : BufTy).Contents (Elt F) → (⟨S131072, .f32⟩ : BufTy).Contents (Elt F)),
    StableHlo.unary main_v2100 main_v2109 (Host.floor : (⟨S131072, .f32⟩ : BufTy).Contents (Elt F) → (⟨S131072, .f32⟩ : BufTy).Contents (Elt F)),
    StableHlo.unary main_v2108 main_v2110 (Host.floor : (⟨S131072, .f32⟩ : BufTy).Contents (Elt F) → (⟨S131072, .f32⟩ : BufTy).Contents (Elt F)),
    StableHlo.binary main_v2100 main_v2109 main_v2111 (subf : (⟨S131072, .f32⟩ : BufTy).Contents (Elt F) → (⟨S131072, .f32⟩ : BufTy).Contents (Elt F) → (⟨S131072, .f32⟩ : BufTy).Contents (Elt F)),
    StableHlo.binary main_v2108 main_v2110 main_v2112 (subf : (⟨S131072, .f32⟩ : BufTy).Contents (Elt F) → (⟨S131072, .f32⟩ : BufTy).Contents (Elt F) → (⟨S131072, .f32⟩ : BufTy).Contents (Elt F)),
    StableHlo.unary main_v2109 main_v2113 (fptosi 32 : (⟨S131072, .f32⟩ : BufTy).Contents (Elt F) → (⟨S131072, .i32⟩ : BufTy).Contents (Elt F)),
    StableHlo.nullary main_c_640 (constantI S_ 32 0#32),
    StableHlo.nullary main_c_641 (constantI S_ 32 255#32),
    StableHlo.TRef.unary (.of main_c_640) main_call64.v0 id,
    StableHlo.TRef.unary main_call64.v0 main_call64.v1 (broadcastInDim S131072 ![] bcast_S_S131072),
    StableHlo.TRef.binary main_call64.v1 (.of main_v2113) main_call64.v2 maxsi,
    StableHlo.TRef.unary (.of main_c_641) main_call64.v3 id,
    StableHlo.TRef.unary main_call64.v3 main_call64.v4 (broadcastInDim S131072 ![] bcast_S_S131072),
    StableHlo.TRef.binary main_call64.v4 main_call64.v2 main_call64.v5 minsi,
    StableHlo.nullary main_c_642 (constantI S_ 32 1#32) ]
theorem w45_eq (c : Dev nD) : main_part45 (F := F) c = seq w45 := rfl
theorem w45_sub : (w45 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub ..⟩
theorem w45_fresh : (w45 : List (HloOp τ sig (Elt F))).Forall fun op => op.fresh = ∅ := by
  simp only [List.Forall]; repeat' constructor
set_option maxHeartbeats 4000000 in
theorem w45_chain : Chain 3048 (w45 : List (HloOp τ sig (Elt F))) :=
  Chain.cons (stepAt_binary 3048 _ _ _ _ rfl (by decide) (by decide)) <|
  Chain.cons (stepAt_nullary 3049 _ _ rfl) <|
  Chain.cons (stepAt_unary 3050 _ _ _ rfl (by decide)) <|
  Chain.cons (stepAt_binary 3051 _ _ _ _ rfl (by decide) (by decide)) <|
  Chain.cons (stepAt_unary 3052 _ _ _ rfl (by decide)) <|
  Chain.cons (stepAt_unary 3053 _ _ _ rfl (by decide)) <|
  Chain.cons (stepAt_binary 3054 _ _ _ _ rfl (by decide) (by decide)) <|
  Chain.cons (stepAt_unary 3055 _ _ _ rfl (by decide)) <|
  Chain.cons (stepAt_unary 3056 _ _ _ rfl (by decide)) <|
  Chain.cons (stepAt_binary 3057 _ _ _ _ rfl (by decide) (by decide)) <|
  Chain.cons (stepAt_binary 3058 _ _ _ _ rfl (by decide) (by decide)) <|
  Chain.cons (stepAt_unary 3059 _ _ _ rfl (by decide)) <|
  Chain.cons (stepAt_unary 3060 _ _ _ rfl (by decide)) <|
  Chain.cons (stepAt_binary 3061 _ _ _ _ rfl (by decide) (by decide)) <|
  Chain.cons (stepAt_unary 3062 _ _ _ rfl (by decide)) <|
  Chain.cons (stepAt_unary 3063 _ _ _ rfl (by decide)) <|
  Chain.cons (stepAt_binary 3064 _ _ _ _ rfl (by decide) (by decide)) <|
  Chain.cons (stepAt_binary 3065 _ _ _ _ rfl (by decide) (by decide)) <|
  Chain.cons (stepAt_unary 3066 _ _ _ rfl (by decide)) <|
  Chain.cons (stepAt_binary 3067 _ _ _ _ rfl (by decide) (by decide)) <|
  Chain.cons (stepAt_nullary 3068 _ _ rfl) <|
  Chain.cons (stepAt_unary 3069 _ _ _ rfl (by decide)) <|
  Chain.cons (stepAt_binary 3070 _ _ _ _ rfl (by decide) (by decide)) <|
  Chain.cons (stepAt_nullary 3071 _ _ rfl) <|
  Chain.cons (stepAt_unary 3072 _ _ _ rfl (by decide)) <|
  Chain.cons (stepAt_binary 3073 _ _ _ _ rfl (by decide) (by decide)) <|
  Chain.cons (stepAt_ternary 3074 _ _ _ _ _ rfl (by decide) (by decide) (by decide)) <|
  Chain.cons (stepAt_unary 3075 _ _ _ rfl (by decide)) <|
  Chain.cons (stepAt_binary 3076 _ _ _ _ rfl (by decide) (by decide)) <|
  Chain.cons (stepAt_unary 3077 _ _ _ rfl (by decide)) <|
  Chain.cons (stepAt_reshape 3078 _ _ _ _ rfl (by decide)) <|
  Chain.cons (stepAt_nullary 3079 _ _ rfl) <|
  Chain.cons (stepAt_unary 3080 _ _ _ rfl (by decide)) <|
  Chain.cons (stepAt_binary 3081 _ _ _ _ rfl (by decide) (by decide)) <|
  Chain.cons (stepAt_nullary 3082 _ _ rfl) <|
  Chain.cons (stepAt_unary 3083 _ _ _ rfl (by decide)) <|
  Chain.cons (stepAt_binary 3084 _ _ _ _ rfl (by decide) (by decide)) <|
  Chain.cons (stepAt_nullary 3085 _ _ rfl) <|
  Chain.cons (stepAt_unary 3086 _ _ _ rfl (by decide)) <|
  Chain.cons (stepAt_binary 3087 _ _ _ _ rfl (by decide) (by decide)) <|
  Chain.cons (stepAt_unary 3088 _ _ _ rfl (by decide)) <|
  Chain.cons (stepAt_reshape 3089 _ _ _ _ rfl (by decide)) <|
  Chain.cons (stepAt_nullary 3090 _ _ rfl) <|
  Chain.cons (stepAt_unary 3091 _ _ _ rfl (by decide)) <|
  Chain.cons (stepAt_binary 3092 _ _ _ _ rfl (by decide) (by decide)) <|
  Chain.cons (stepAt_nullary 3093 _ _ rfl) <|
  Chain.cons (stepAt_unary 3094 _ _ _ rfl (by decide)) <|
  Chain.cons (stepAt_binary 3095 _ _ _ _ rfl (by decide) (by decide)) <|
  Chain.cons (stepAt_nullary 3096 _ _ rfl) <|
  Chain.cons (stepAt_unary 3097 _ _ _ rfl (by decide)) <|
  Chain.cons (stepAt_binary 3098 _ _ _ _ rfl (by decide) (by decide)) <|
  Chain.cons (stepAt_unary 3099 _ _ _ rfl (by decide)) <|
  Chain.cons (stepAt_unary 3100 _ _ _ rfl (by decide)) <|
  Chain.cons (stepAt_binary 3101 _ _ _ _ rfl (by decide) (by decide)) <|
  Chain.cons (stepAt_binary 3102 _ _ _ _ rfl (by decide) (by decide)) <|
  Chain.cons (stepAt_unary 3103 _ _ _ rfl (by decide)) <|
  Chain.cons (stepAt_nullary 3104 _ _ rfl) <|
  Chain.cons (stepAt_nullary 3105 _ _ rfl) <|
  Chain.cons (stepAt_unary 3106 _ _ _ rfl (by decide)) <|
  Chain.cons (stepAt_unary 3107 _ _ _ rfl (by decide)) <|
  Chain.cons (stepAt_binary 3108 _ _ _ _ rfl (by decide) (by decide)) <|
  Chain.cons (stepAt_unary 3109 _ _ _ rfl (by decide)) <|
  Chain.cons (stepAt_unary 3110 _ _ _ rfl (by decide)) <|
  Chain.cons (stepAt_binary 3111 _ _ _ _ rfl (by decide) (by decide)) <|
  Chain.cons (stepAt_nullary 3112 _ _ rfl) <|
  Chain.nil
theorem w45_length : (w45 : List (HloOp τ sig (Elt F))).length = 65 := rfl

/-- Window 46 of @main: 75 operations, writing buffers 3113 … 3187. -/
abbrev w46 : List (HloOp τ sig (Elt F)) :=
  [ StableHlo.unary main_c_642 main_v2115 (broadcastInDim S131072 ![] bcast_S_S131072 : (⟨S_, .i32⟩ : BufTy).Contents (Elt F) → (⟨S131072, .i32⟩ : BufTy).Contents (Elt F)),
    StableHlo.binary main_v2114 main_v2115 main_v2116 (addi : (⟨S131072, .i32⟩ : BufTy).Contents (Elt F) → (⟨S131072, .i32⟩ : BufTy).Contents (Elt F) → (⟨S131072, .i32⟩ : BufTy).Contents (Elt F)),
    StableHlo.nullary main_c_643 (constantI S_ 32 0#32),
    StableHlo.nullary main_c_644 (constantI S_ 32 255#32),
    StableHlo.TRef.unary (.of main_c_643) main_call65.v0 id,
    StableHlo.TRef.unary main_call65.v0 main_call65.v1 (broadcastInDim S131072 ![] bcast_S_S131072),
    StableHlo.TRef.binary main_call65.v1 (.of main_v2116) main_call65.v2 maxsi,
    StableHlo.TRef.unary (.of main_c_644) main_call65.v3 id,
    StableHlo.TRef.unary main_call65.v3 main_call65.v4 (broadcastInDim S131072 ![] bcast_S_S131072),
    StableHlo.TRef.binary main_call65.v4 main_call65.v2 main_call65.v5 minsi,
    StableHlo.unary main_v2110 main_v2118 (fptosi 32 : (⟨S131072, .f32⟩ : BufTy).Contents (Elt F) → (⟨S131072, .i32⟩ : BufTy).Contents (Elt F)),
    StableHlo.nullary main_c_645 (constantI S_ 32 0#32),
    StableHlo.nullary main_c_646 (constantI S_ 32 149#32),
    StableHlo.TRef.unary (.of main_c_645) main_call66.v0 id,
    StableHlo.TRef.unary main_call66.v0 main_call66.v1 (broadcastInDim S131072 ![] bcast_S_S131072),
    StableHlo.TRef.binary main_call66.v1 (.of main_v2118) main_call66.v2 maxsi,
    StableHlo.TRef.unary (.of main_c_646) main_call66.v3 id,
    StableHlo.TRef.unary main_call66.v3 main_call66.v4 (broadcastInDim S131072 ![] bcast_S_S131072),
    StableHlo.TRef.binary main_call66.v4 main_call66.v2 main_call66.v5 minsi,
    StableHlo.nullary main_c_647 (constantI S_ 32 1#32),
    StableHlo.unary main_c_647 main_v2120 (broadcastInDim S131072 ![] bcast_S_S131072 : (⟨S_, .i32⟩ : BufTy).Contents (Elt F) → (⟨S131072, .i32⟩ : BufTy).Contents (Elt F)),
    StableHlo.binary main_v2119 main_v2120 main_v2121 (addi : (⟨S131072, .i32⟩ : BufTy).Contents (Elt F) → (⟨S131072, .i32⟩ : BufTy).Contents (Elt F) → (⟨S131072, .i32⟩ : BufTy).Contents (Elt F)),
    StableHlo.nullary main_c_648 (constantI S_ 32 0#32),
    StableHlo.nullary main_c_649 (constantI S_ 32 149#32),
    StableHlo.TRef.unary (.of main_c_648) main_call67.v0 id,
    StableHlo.TRef.unary main_call67.v0 main_call67.v1 (broadcastInDim S131072 ![] bcast_S_S131072),
    StableHlo.TRef.binary main_call67.v1 (.of main_v2121) main_call67.v2 maxsi,
    StableHlo.TRef.unary (.of main_c_649) main_call67.v3 id,
    StableHlo.TRef.unary main_call67.v3 main_call67.v4 (broadcastInDim S131072 ![] bcast_S_S131072),
    StableHlo.TRef.binary main_call67.v4 main_call67.v2 main_call67.v5 minsi,
    StableHlo.nullary main_c_650 (constantI S_ 32 0#32),
    StableHlo.unary main_c_650 main_v2123 (broadcastInDim S131072 ![] bcast_S_S131072 : (⟨S_, .i32⟩ : BufTy).Contents (Elt F) → (⟨S131072, .i32⟩ : BufTy).Contents (Elt F)),
    StableHlo.binary main_v2119 main_v2123 main_v2124 (cmpi .slt : (⟨S131072, .i32⟩ : BufTy).Contents (Elt F) → (⟨S131072, .i32⟩ : BufTy).Contents (Elt F) → (⟨S131072, .i1⟩ : BufTy).Contents (Elt F)),
    StableHlo.nullary main_c_651 (constantI S_ 32 150#32),
    StableHlo.unary main_c_651 main_v2125 (broadcastInDim S131072 ![] bcast_S_S131072 : (⟨S_, .i32⟩ : BufTy).Contents (Elt F) → (⟨S131072, .i32⟩ : BufTy).Contents (Elt F)),
    StableHlo.binary main_v2119 main_v2125 main_v2126 (addi : (⟨S131072, .i32⟩ : BufTy).Contents (Elt F) → (⟨S131072, .i32⟩ : BufTy).Contents (Elt F) → (⟨S131072, .i32⟩ : BufTy).Contents (Elt F)),
    StableHlo.ternary main_v2124 main_v2126 main_v2119 main_v2127 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_652 (constantI S_ 32 0#32),
    StableHlo.unary main_c_652 main_v2128 (broadcastInDim S131072 ![] bcast_S_S131072 : (⟨S_, .i32⟩ : BufTy).Contents (Elt F) → (⟨S131072, .i32⟩ : BufTy).Contents (Elt F)),
    StableHlo.binary main_v2114 main_v2128 main_v2129 (cmpi .slt : (⟨S131072, .i32⟩ : BufTy).Contents (Elt F) → (⟨S131072, .i32⟩ : BufTy).Contents (Elt F) → (⟨S131072, .i1⟩ : BufTy).Contents (Elt F)),
    StableHlo.nullary main_c_653 (constantI S_ 32 256#32),
    StableHlo.unary main_c_653 main_v2130 (broadcastInDim S131072 ![] bcast_S_S131072 : (⟨S_, .i32⟩ : BufTy).Contents (Elt F) → (⟨S131072, .i32⟩ : BufTy).Contents (Elt F)),
    StableHlo.binary main_v2114 main_v2130 main_v2131 (addi : (⟨S131072, .i32⟩ : BufTy).Contents (Elt F) → (⟨S131072, .i32⟩ : BufTy).Contents (Elt F) → (⟨S131072, .i32⟩ : BufTy).Contents (Elt F)),
    StableHlo.ternary main_v2129 main_v2131 main_v2114 main_v2132 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2127 main_v2133 (broadcastInDim S131072x1 ![0] bcast_S131072_S131072x1_0 : (⟨S131072, .i32⟩ : BufTy).Contents (Elt F) → (⟨S131072x1, .i32⟩ : BufTy).Contents (Elt F)),
    StableHlo.unary main_v2132 main_v2134 (broadcastInDim S131072x1 ![0] bcast_S131072_S131072x1_0 : (⟨S131072, .i32⟩ : BufTy).Contents (Elt F) → (⟨S131072x1, .i32⟩ : BufTy).Contents (Elt F)),
    StableHlo.binary main_v2133 main_v2134 main_v2135 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg18 main_v2135 main_v2136 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_654 (constantI S_ 32 0#32),
    StableHlo.unary main_c_654 main_v2137 (broadcastInDim S131072 ![] bcast_S_S131072 : (⟨S_, .i32⟩ : BufTy).Contents (Elt F) → (⟨S131072, .i32⟩ : BufTy).Contents (Elt F)),
    StableHlo.binary main_v2119 main_v2137 main_v2138 (cmpi .slt : (⟨S131072, .i32⟩ : BufTy).Contents (Elt F) → (⟨S131072, .i32⟩ : BufTy).Contents (Elt F) → (⟨S131072, .i1⟩ : BufTy).Contents (Elt F)),
    StableHlo.nullary main_c_655 (constantI S_ 32 150#32),
    StableHlo.unary main_c_655 main_v2139 (broadcastInDim S131072 ![] bcast_S_S131072 : (⟨S_, .i32⟩ : BufTy).Contents (Elt F) → (⟨S131072, .i32⟩ : BufTy).Contents (Elt F)),
    StableHlo.binary main_v2119 main_v2139 main_v2140 (addi : (⟨S131072, .i32⟩ : BufTy).Contents (Elt F) → (⟨S131072, .i32⟩ : BufTy).Contents (Elt F) → (⟨S131072, .i32⟩ : BufTy).Contents (Elt F)),
    StableHlo.ternary main_v2138 main_v2140 main_v2119 main_v2141 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_656 (constantI S_ 32 0#32),
    StableHlo.unary main_c_656 main_v2142 (broadcastInDim S131072 ![] bcast_S_S131072 : (⟨S_, .i32⟩ : BufTy).Contents (Elt F) → (⟨S131072, .i32⟩ : BufTy).Contents (Elt F)),
    StableHlo.binary main_v2117 main_v2142 main_v2143 (cmpi .slt : (⟨S131072, .i32⟩ : BufTy).Contents (Elt F) → (⟨S131072, .i32⟩ : BufTy).Contents (Elt F) → (⟨S131072, .i1⟩ : BufTy).Contents (Elt F)),
    StableHlo.nullary main_c_657 (constantI S_ 32 256#32),
    StableHlo.unary main_c_657 main_v2144 (broadcastInDim S131072 ![] bcast_S_S131072 : (⟨S_, .i32⟩ : BufTy).Contents (Elt F) → (⟨S131072, .i32⟩ : BufTy).Contents (Elt F)),
    StableHlo.binary main_v2117 main_v2144 main_v2145 (addi : (⟨S131072, .i32⟩ : BufTy).Contents (Elt F) → (⟨S131072, .i32⟩ : BufTy).Contents (Elt F) → (⟨S131072, .i32⟩ : BufTy).Contents (Elt F)),
    StableHlo.ternary main_v2143 main_v2145 main_v2117 main_v2146 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2141 main_v2147 (broadcastInDim S131072x1 ![0] bcast_S131072_S131072x1_0 : (⟨S131072, .i32⟩ : BufTy).Contents (Elt F) → (⟨S131072x1, .i32⟩ : BufTy).Contents (Elt F)),
    StableHlo.unary main_v2146 main_v2148 (broadcastInDim S131072x1 ![0] bcast_S131072_S131072x1_0 : (⟨S131072, .i32⟩ : BufTy).Contents (Elt F) → (⟨S131072x1, .i32⟩ : BufTy).Contents (Elt F)),
    StableHlo.binary main_v2147 main_v2148 main_v2149 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg18 main_v2149 main_v2150 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_658 (constantI S_ 32 0#32),
    StableHlo.unary main_c_658 main_v2151 (broadcastInDim S131072 ![] bcast_S_S131072 : (⟨S_, .i32⟩ : BufTy).Contents (Elt F) → (⟨S131072, .i32⟩ : BufTy).Contents (Elt F)),
    StableHlo.binary main_v2122 main_v2151 main_v2152 (cmpi .slt : (⟨S131072, .i32⟩ : BufTy).Contents (Elt F) → (⟨S131072, .i32⟩ : BufTy).Contents (Elt F) → (⟨S131072, .i1⟩ : BufTy).Contents (Elt F)),
    StableHlo.nullary main_c_659 (constantI S_ 32 150#32),
    StableHlo.unary main_c_659 main_v2153 (broadcastInDim S131072 ![] bcast_S_S131072 : (⟨S_, .i32⟩ : BufTy).Contents (Elt F) → (⟨S131072, .i32⟩ : BufTy).Contents (Elt F)),
    StableHlo.binary main_v2122 main_v2153 main_v2154 (addi : (⟨S131072, .i32⟩ : BufTy).Contents (Elt F) → (⟨S131072, .i32⟩ : BufTy).Contents (Elt F) → (⟨S131072, .i32⟩ : BufTy).Contents (Elt F)),
    StableHlo.ternary main_v2152 main_v2154 main_v2122 main_v2155 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_660 (constantI S_ 32 0#32),
    StableHlo.unary main_c_660 main_v2156 (broadcastInDim S131072 ![] bcast_S_S131072 : (⟨S_, .i32⟩ : BufTy).Contents (Elt F) → (⟨S131072, .i32⟩ : BufTy).Contents (Elt F)) ]
theorem w46_eq (c : Dev nD) : main_part46 (F := F) c = seq w46 := rfl
theorem w46_sub : (w46 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩
theorem w46_fresh : (w46 : List (HloOp τ sig (Elt F))).Forall fun op => op.fresh = ∅ := by
  simp only [List.Forall]; repeat' constructor
set_option maxHeartbeats 4000000 in
theorem w46_chain : Chain 3113 (w46 : List (HloOp τ sig (Elt F))) :=
  Chain.cons (stepAt_unary 3113 _ _ _ rfl (by decide)) <|
  Chain.cons (stepAt_binary 3114 _ _ _ _ rfl (by decide) (by decide)) <|
  Chain.cons (stepAt_nullary 3115 _ _ rfl) <|
  Chain.cons (stepAt_nullary 3116 _ _ rfl) <|
  Chain.cons (stepAt_unary 3117 _ _ _ rfl (by decide)) <|
  Chain.cons (stepAt_unary 3118 _ _ _ rfl (by decide)) <|
  Chain.cons (stepAt_binary 3119 _ _ _ _ rfl (by decide) (by decide)) <|
  Chain.cons (stepAt_unary 3120 _ _ _ rfl (by decide)) <|
  Chain.cons (stepAt_unary 3121 _ _ _ rfl (by decide)) <|
  Chain.cons (stepAt_binary 3122 _ _ _ _ rfl (by decide) (by decide)) <|
  Chain.cons (stepAt_unary 3123 _ _ _ rfl (by decide)) <|
  Chain.cons (stepAt_nullary 3124 _ _ rfl) <|
  Chain.cons (stepAt_nullary 3125 _ _ rfl) <|
  Chain.cons (stepAt_unary 3126 _ _ _ rfl (by decide)) <|
  Chain.cons (stepAt_unary 3127 _ _ _ rfl (by decide)) <|
  Chain.cons (stepAt_binary 3128 _ _ _ _ rfl (by decide) (by decide)) <|
  Chain.cons (stepAt_unary 3129 _ _ _ rfl (by decide)) <|
  Chain.cons (stepAt_unary 3130 _ _ _ rfl (by decide)) <|
  Chain.cons (stepAt_binary 3131 _ _ _ _ rfl (by decide) (by decide)) <|
  Chain.cons (stepAt_nullary 3132 _ _ rfl) <|
  Chain.cons (stepAt_unary 3133 _ _ _ rfl (by decide)) <|
  Chain.cons (stepAt_binary 3134 _ _ _ _ rfl (by decide) (by decide)) <|
  Chain.cons (stepAt_nullary 3135 _ _ rfl) <|
  Chain.cons (stepAt_nullary 3136 _ _ rfl) <|
  Chain.cons (stepAt_unary 3137 _ _ _ rfl (by decide)) <|
  Chain.cons (stepAt_unary 3138 _ _ _ rfl (by decide)) <|
  Chain.cons (stepAt_binary 3139 _ _ _ _ rfl (by decide) (by decide)) <|
  Chain.cons (stepAt_unary 3140 _ _ _ rfl (by decide)) <|
  Chain.cons (stepAt_unary 3141 _ _ _ rfl (by decide)) <|
  Chain.cons (stepAt_binary 3142 _ _ _ _ rfl (by decide) (by decide)) <|
  Chain.cons (stepAt_nullary 3143 _ _ rfl) <|
  Chain.cons (stepAt_unary 3144 _ _ _ rfl (by decide)) <|
  Chain.cons (stepAt_binary 3145 _ _ _ _ rfl (by decide) (by decide)) <|
  Chain.cons (stepAt_nullary 3146 _ _ rfl) <|
  Chain.cons (stepAt_unary 3147 _ _ _ rfl (by decide)) <|
  Chain.cons (stepAt_binary 3148 _ _ _ _ rfl (by decide) (by decide)) <|
  Chain.cons (stepAt_ternary 3149 _ _ _ _ _ rfl (by decide) (by decide) (by decide)) <|
  Chain.cons (stepAt_nullary 3150 _ _ rfl) <|
  Chain.cons (stepAt_unary 3151 _ _ _ rfl (by decide)) <|
  Chain.cons (stepAt_binary 3152 _ _ _ _ rfl (by decide) (by decide)) <|
  Chain.cons (stepAt_nullary 3153 _ _ rfl) <|
  Chain.cons (stepAt_unary 3154 _ _ _ rfl (by decide)) <|
  Chain.cons (stepAt_binary 3155 _ _ _ _ rfl (by decide) (by decide)) <|
  Chain.cons (stepAt_ternary 3156 _ _ _ _ _ rfl (by decide) (by decide) (by decide)) <|
  Chain.cons (stepAt_unary 3157 _ _ _ rfl (by decide)) <|
  Chain.cons (stepAt_unary 3158 _ _ _ rfl (by decide)) <|
  Chain.cons (stepAt_binary 3159 _ _ _ _ rfl (by decide) (by decide)) <|
  Chain.cons (stepAt_binary 3160 _ _ _ _ rfl (by decide) (by decide)) <|
  Chain.cons (stepAt_nullary 3161 _ _ rfl) <|
  Chain.cons (stepAt_unary 3162 _ _ _ rfl (by decide)) <|
  Chain.cons (stepAt_binary 3163 _ _ _ _ rfl (by decide) (by decide)) <|
  Chain.cons (stepAt_nullary 3164 _ _ rfl) <|
  Chain.cons (stepAt_unary 3165 _ _ _ rfl (by decide)) <|
  Chain.cons (stepAt_binary 3166 _ _ _ _ rfl (by decide) (by decide)) <|
  Chain.cons (stepAt_ternary 3167 _ _ _ _ _ rfl (by decide) (by decide) (by decide)) <|
  Chain.cons (stepAt_nullary 3168 _ _ rfl) <|
  Chain.cons (stepAt_unary 3169 _ _ _ rfl (by decide)) <|
  Chain.cons (stepAt_binary 3170 _ _ _ _ rfl (by decide) (by decide)) <|
  Chain.cons (stepAt_nullary 3171 _ _ rfl) <|
  Chain.cons (stepAt_unary 3172 _ _ _ rfl (by decide)) <|
  Chain.cons (stepAt_binary 3173 _ _ _ _ rfl (by decide) (by decide)) <|
  Chain.cons (stepAt_ternary 3174 _ _ _ _ _ rfl (by decide) (by decide) (by decide)) <|
  Chain.cons (stepAt_unary 3175 _ _ _ rfl (by decide)) <|
  Chain.cons (stepAt_unary 3176 _ _ _ rfl (by decide)) <|
  Chain.cons (stepAt_binary 3177 _ _ _ _ rfl (by decide) (by decide)) <|
  Chain.cons (stepAt_binary 3178 _ _ _ _ rfl (by decide) (by decide)) <|
  Chain.cons (stepAt_nullary 3179 _ _ rfl) <|
  Chain.cons (stepAt_unary 3180 _ _ _ rfl (by decide)) <|
  Chain.cons (stepAt_binary 3181 _ _ _ _ rfl (by decide) (by decide)) <|
  Chain.cons (stepAt_nullary 3182 _ _ rfl) <|
  Chain.cons (stepAt_unary 3183 _ _ _ rfl (by decide)) <|
  Chain.cons (stepAt_binary 3184 _ _ _ _ rfl (by decide) (by decide)) <|
  Chain.cons (stepAt_ternary 3185 _ _ _ _ _ rfl (by decide) (by decide) (by decide)) <|
  Chain.cons (stepAt_nullary 3186 _ _ rfl) <|
  Chain.cons (stepAt_unary 3187 _ _ _ rfl (by decide)) <|
  Chain.nil
theorem w46_length : (w46 : List (HloOp τ sig (Elt F))).length = 75 := rfl

/-- Window 47 of @main: 60 operations, writing buffers 3188 … 3247. -/
abbrev w47 : List (HloOp τ sig (Elt F)) :=
  [ StableHlo.binary main_v2114 main_v2156 main_v2157 (cmpi .slt : (⟨S131072, .i32⟩ : BufTy).Contents (Elt F) → (⟨S131072, .i32⟩ : BufTy).Contents (Elt F) → (⟨S131072, .i1⟩ : BufTy).Contents (Elt F)),
    StableHlo.nullary main_c_661 (constantI S_ 32 256#32),
    StableHlo.unary main_c_661 main_v2158 (broadcastInDim S131072 ![] bcast_S_S131072 : (⟨S_, .i32⟩ : BufTy).Contents (Elt F) → (⟨S131072, .i32⟩ : BufTy).Contents (Elt F)),
    StableHlo.binary main_v2114 main_v2158 main_v2159 (addi : (⟨S131072, .i32⟩ : BufTy).Contents (Elt F) → (⟨S131072, .i32⟩ : BufTy).Contents (Elt F) → (⟨S131072, .i32⟩ : BufTy).Contents (Elt F)),
    StableHlo.ternary main_v2157 main_v2159 main_v2114 main_v2160 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2155 main_v2161 (broadcastInDim S131072x1 ![0] bcast_S131072_S131072x1_0 : (⟨S131072, .i32⟩ : BufTy).Contents (Elt F) → (⟨S131072x1, .i32⟩ : BufTy).Contents (Elt F)),
    StableHlo.unary main_v2160 main_v2162 (broadcastInDim S131072x1 ![0] bcast_S131072_S131072x1_0 : (⟨S131072, .i32⟩ : BufTy).Contents (Elt F) → (⟨S131072x1, .i32⟩ : BufTy).Contents (Elt F)),
    StableHlo.binary main_v2161 main_v2162 main_v2163 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg18 main_v2163 main_v2164 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_662 (constantI S_ 32 0#32),
    StableHlo.unary main_c_662 main_v2165 (broadcastInDim S131072 ![] bcast_S_S131072 : (⟨S_, .i32⟩ : BufTy).Contents (Elt F) → (⟨S131072, .i32⟩ : BufTy).Contents (Elt F)),
    StableHlo.binary main_v2122 main_v2165 main_v2166 (cmpi .slt : (⟨S131072, .i32⟩ : BufTy).Contents (Elt F) → (⟨S131072, .i32⟩ : BufTy).Contents (Elt F) → (⟨S131072, .i1⟩ : BufTy).Contents (Elt F)),
    StableHlo.nullary main_c_663 (constantI S_ 32 150#32),
    StableHlo.unary main_c_663 main_v2167 (broadcastInDim S131072 ![] bcast_S_S131072 : (⟨S_, .i32⟩ : BufTy).Contents (Elt F) → (⟨S131072, .i32⟩ : BufTy).Contents (Elt F)),
    StableHlo.binary main_v2122 main_v2167 main_v2168 (addi : (⟨S131072, .i32⟩ : BufTy).Contents (Elt F) → (⟨S131072, .i32⟩ : BufTy).Contents (Elt F) → (⟨S131072, .i32⟩ : BufTy).Contents (Elt F)),
    StableHlo.ternary main_v2166 main_v2168 main_v2122 main_v2169 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_664 (constantI S_ 32 0#32),
    StableHlo.unary main_c_664 main_v2170 (broadcastInDim S131072 ![] bcast_S_S131072 : (⟨S_, .i32⟩ : BufTy).Contents (Elt F) → (⟨S131072, .i32⟩ : BufTy).Contents (Elt F)),
    StableHlo.binary main_v2117 main_v2170 main_v2171 (cmpi .slt : (⟨S131072, .i32⟩ : BufTy).Contents (Elt F) → (⟨S131072, .i32⟩ : BufTy).Contents (Elt F) → (⟨S131072, .i1⟩ : BufTy).Contents (Elt F)),
    StableHlo.nullary main_c_665 (constantI S_ 32 256#32),
    StableHlo.unary main_c_665 main_v2172 (broadcastInDim S131072 ![] bcast_S_S131072 : (⟨S_, .i32⟩ : BufTy).Contents (Elt F) → (⟨S131072, .i32⟩ : BufTy).Contents (Elt F)),
    StableHlo.binary main_v2117 main_v2172 main_v2173 (addi : (⟨S131072, .i32⟩ : BufTy).Contents (Elt F) → (⟨S131072, .i32⟩ : BufTy).Contents (Elt F) → (⟨S131072, .i32⟩ : BufTy).Contents (Elt F)),
    StableHlo.ternary main_v2171 main_v2173 main_v2117 main_v2174 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2169 main_v2175 (broadcastInDim S131072x1 ![0] bcast_S131072_S131072x1_0 : (⟨S131072, .i32⟩ : BufTy).Contents (Elt F) → (⟨S131072x1, .i32⟩ : BufTy).Contents (Elt F)),
    StableHlo.unary main_v2174 main_v2176 (broadcastInDim S131072x1 ![0] bcast_S131072_S131072x1_0 : (⟨S131072, .i32⟩ : BufTy).Contents (Elt F) → (⟨S131072x1, .i32⟩ : BufTy).Contents (Elt F)),
    StableHlo.binary main_v2175 main_v2176 main_v2177 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg18 main_v2177 main_v2178 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_cst_666 (constant S_ .f32 0x3F800000#32),
    StableHlo.unary main_cst_666 main_v2179 (broadcastInDim S131072 ![] bcast_S_S131072 : (⟨S_, .f32⟩ : BufTy).Contents (Elt F) → (⟨S131072, .f32⟩ : BufTy).Contents (Elt F)),
    StableHlo.binary main_v2179 main_v2111 main_v2180 (subf : (⟨S131072, .f32⟩ : BufTy).Contents (Elt F) → (⟨S131072, .f32⟩ : BufTy).Contents (Elt F) → (⟨S131072, .f32⟩ : BufTy).Contents (Elt F)),
    StableHlo.unary main_v2180 main_v2181 (broadcastInDim S1x131072 ![1] bcast_S131072_S1x131072_1 : (⟨S131072, .f32⟩ : BufTy).Contents (Elt F) → (⟨S1x131072, .f32⟩ : BufTy).Contents (Elt F)),
    StableHlo.unary main_v2181 main_v2182 (broadcastInDim S32x131072 ![0, 1] bcast_S1x131072_S32x131072_0_1 : (⟨S1x131072, .f32⟩ : BufTy).Contents (Elt F) → (⟨S32x131072, .f32⟩ : BufTy).Contents (Elt F)),
    StableHlo.binary main_v2136 main_v2182 main_v2183 (mulf : (⟨S32x131072, .f32⟩ : BufTy).Contents (Elt F) → (⟨S32x131072, .f32⟩ : BufTy).Contents (Elt F) → (⟨S32x131072, .f32⟩ : BufTy).Contents (Elt F)),
    StableHlo.nullary main_cst_667 (constant S_ .f32 0x3F800000#32),
    StableHlo.unary main_cst_667 main_v2184 (broadcastInDim S131072 ![] bcast_S_S131072 : (⟨S_, .f32⟩ : BufTy).Contents (Elt F) → (⟨S131072, .f32⟩ : BufTy).Contents (Elt F)),
    StableHlo.binary main_v2184 main_v2112 main_v2185 (subf : (⟨S131072, .f32⟩ : BufTy).Contents (Elt F) → (⟨S131072, .f32⟩ : BufTy).Contents (Elt F) → (⟨S131072, .f32⟩ : BufTy).Contents (Elt F)),
    StableHlo.unary main_v2185 main_v2186 (broadcastInDim S1x131072 ![1] bcast_S131072_S1x131072_1 : (⟨S131072, .f32⟩ : BufTy).Contents (Elt F) → (⟨S1x131072, .f32⟩ : BufTy).Contents (Elt F)),
    StableHlo.unary main_v2186 main_v2187 (broadcastInDim S32x131072 ![0, 1] bcast_S1x131072_S32x131072_0_1 : (⟨S1x131072, .f32⟩ : BufTy).Contents (Elt F) → (⟨S32x131072, .f32⟩ : BufTy).Contents (Elt F)),
    StableHlo.binary main_v2183 main_v2187 main_v2188 (mulf : (⟨S32x131072, .f32⟩ : BufTy).Contents (Elt F) → (⟨S32x131072, .f32⟩ : BufTy).Contents (Elt F) → (⟨S32x131072, .f32⟩ : BufTy).Contents (Elt F)),
    StableHlo.unary main_v2111 main_v2189 (broadcastInDim S1x131072 ![1] bcast_S131072_S1x131072_1 : (⟨S131072, .f32⟩ : BufTy).Contents (Elt F) → (⟨S1x131072, .f32⟩ : BufTy).Contents (Elt F)),
    StableHlo.unary main_v2189 main_v2190 (broadcastInDim S32x131072 ![0, 1] bcast_S1x131072_S32x131072_0_1 : (⟨S1x131072, .f32⟩ : BufTy).Contents (Elt F) → (⟨S32x131072, .f32⟩ : BufTy).Contents (Elt F)),
    StableHlo.binary main_v2150 main_v2190 main_v2191 (mulf : (⟨S32x131072, .f32⟩ : BufTy).Contents (Elt F) → (⟨S32x131072, .f32⟩ : BufTy).Contents (Elt F) → (⟨S32x131072, .f32⟩ : BufTy).Contents (Elt F)),
    StableHlo.nullary main_cst_668 (constant S_ .f32 0x3F800000#32),
    StableHlo.unary main_cst_668 main_v2192 (broadcastInDim S131072 ![] bcast_S_S131072 : (⟨S_, .f32⟩ : BufTy).Contents (Elt F) → (⟨S131072, .f32⟩ : BufTy).Contents (Elt F)),
    StableHlo.binary main_v2192 main_v2112 main_v2193 (subf : (⟨S131072, .f32⟩ : BufTy).Contents (Elt F) → (⟨S131072, .f32⟩ : BufTy).Contents (Elt F) → (⟨S131072, .f32⟩ : BufTy).Contents (Elt F)),
    StableHlo.unary main_v2193 main_v2194 (broadcastInDim S1x131072 ![1] bcast_S131072_S1x131072_1 : (⟨S131072, .f32⟩ : BufTy).Contents (Elt F) → (⟨S1x131072, .f32⟩ : BufTy).Contents (Elt F)),
    StableHlo.unary main_v2194 main_v2195 (broadcastInDim S32x131072 ![0, 1] bcast_S1x131072_S32x131072_0_1 : (⟨S1x131072, .f32⟩ : BufTy).Contents (Elt F) → (⟨S32x131072, .f32⟩ : BufTy).Contents (Elt F)),
    StableHlo.binary main_v2191 main_v2195 main_v2196 (mulf : (⟨S32x131072, .f32⟩ : BufTy).Contents (Elt F) → (⟨S32x131072, .f32⟩ : BufTy).Contents (Elt F) → (⟨S32x131072, .f32⟩ : BufTy).Contents (Elt F)),
    StableHlo.binary main_v2188 main_v2196 main_v2197 (addf : (⟨S32x131072, .f32⟩ : BufTy).Contents (Elt F) → (⟨S32x131072, .f32⟩ : BufTy).Contents (Elt F) → (⟨S32x131072, .f32⟩ : BufTy).Contents (Elt F)),
    StableHlo.nullary main_cst_669 (constant S_ .f32 0x3F800000#32),
    StableHlo.unary main_cst_669 main_v2198 (broadcastInDim S131072 ![] bcast_S_S131072 : (⟨S_, .f32⟩ : BufTy).Contents (Elt F) → (⟨S131072, .f32⟩ : BufTy).Contents (Elt F)),
    StableHlo.binary main_v2198 main_v2111 main_v2199 (subf : (⟨S131072, .f32⟩ : BufTy).Contents (Elt F) → (⟨S131072, .f32⟩ : BufTy).Contents (Elt F) → (⟨S131072, .f32⟩ : BufTy).Contents (Elt F)),
    StableHlo.unary main_v2199 main_v2200 (broadcastInDim S1x131072 ![1] bcast_S131072_S1x131072_1 : (⟨S131072, .f32⟩ : BufTy).Contents (Elt F) → (⟨S1x131072, .f32⟩ : BufTy).Contents (Elt F)),
    StableHlo.unary main_v2200 main_v2201 (broadcastInDim S32x131072 ![0, 1] bcast_S1x131072_S32x131072_0_1 : (⟨S1x131072, .f32⟩ : BufTy).Contents (Elt F) → (⟨S32x131072, .f32⟩ : BufTy).Contents (Elt F)),
    StableHlo.binary main_v2164 main_v2201 main_v2202 (mulf : (⟨S32x131072, .f32⟩ : BufTy).Contents (Elt F) → (⟨S32x131072, .f32⟩ : BufTy).Contents (Elt F) → (⟨S32x131072, .f32⟩ : BufTy).Contents (Elt F)),
    StableHlo.unary main_v2112 main_v2203 (broadcastInDim S1x131072 ![1] bcast_S131072_S1x131072_1 : (⟨S131072, .f32⟩ : BufTy).Contents (Elt F) → (⟨S1x131072, .f32⟩ : BufTy).Contents (Elt F)),
    StableHlo.unary main_v2203 main_v2204 (broadcastInDim S32x131072 ![0, 1] bcast_S1x131072_S32x131072_0_1 : (⟨S1x131072, .f32⟩ : BufTy).Contents (Elt F) → (⟨S32x131072, .f32⟩ : BufTy).Contents (Elt F)),
    StableHlo.binary main_v2202 main_v2204 main_v2205 (mulf : (⟨S32x131072, .f32⟩ : BufTy).Contents (Elt F) → (⟨S32x131072, .f32⟩ : BufTy).Contents (Elt F) → (⟨S32x131072, .f32⟩ : BufTy).Contents (Elt F)),
    StableHlo.binary main_v2197 main_v2205 main_v2206 (addf : (⟨S32x131072, .f32⟩ : BufTy).Contents (Elt F) → (⟨S32x131072, .f32⟩ : BufTy).Contents (Elt F) → (⟨S32x131072, .f32⟩ : BufTy).Contents (Elt F)),
    StableHlo.unary main_v2111 main_v2207 (broadcastInDim S1x131072 ![1] bcast_S131072_S1x131072_1 : (⟨S131072, .f32⟩ : BufTy).Contents (Elt F) → (⟨S1x131072, .f32⟩ : BufTy).Contents (Elt F)) ]
theorem w47_eq (c : Dev nD) : main_part47 (F := F) c = seq w47 := rfl
theorem w47_sub : (w47 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub ..⟩
theorem w47_fresh : (w47 : List (HloOp τ sig (Elt F))).Forall fun op => op.fresh = ∅ := by
  simp only [List.Forall]; repeat' constructor
set_option maxHeartbeats 4000000 in
theorem w47_chain : Chain 3188 (w47 : List (HloOp τ sig (Elt F))) :=
  Chain.cons (stepAt_binary 3188 _ _ _ _ rfl (by decide) (by decide)) <|
  Chain.cons (stepAt_nullary 3189 _ _ rfl) <|
  Chain.cons (stepAt_unary 3190 _ _ _ rfl (by decide)) <|
  Chain.cons (stepAt_binary 3191 _ _ _ _ rfl (by decide) (by decide)) <|
  Chain.cons (stepAt_ternary 3192 _ _ _ _ _ rfl (by decide) (by decide) (by decide)) <|
  Chain.cons (stepAt_unary 3193 _ _ _ rfl (by decide)) <|
  Chain.cons (stepAt_unary 3194 _ _ _ rfl (by decide)) <|
  Chain.cons (stepAt_binary 3195 _ _ _ _ rfl (by decide) (by decide)) <|
  Chain.cons (stepAt_binary 3196 _ _ _ _ rfl (by decide) (by decide)) <|
  Chain.cons (stepAt_nullary 3197 _ _ rfl) <|
  Chain.cons (stepAt_unary 3198 _ _ _ rfl (by decide)) <|
  Chain.cons (stepAt_binary 3199 _ _ _ _ rfl (by decide) (by decide)) <|
  Chain.cons (stepAt_nullary 3200 _ _ rfl) <|
  Chain.cons (stepAt_unary 3201 _ _ _ rfl (by decide)) <|
  Chain.cons (stepAt_binary 3202 _ _ _ _ rfl (by decide) (by decide)) <|
  Chain.cons (stepAt_ternary 3203 _ _ _ _ _ rfl (by decide) (by decide) (by decide)) <|
  Chain.cons (stepAt_nullary 3204 _ _ rfl) <|
  Chain.cons (stepAt_unary 3205 _ _ _ rfl (by decide)) <|
  Chain.cons (stepAt_binary 3206 _ _ _ _ rfl (by decide) (by decide)) <|
  Chain.cons (stepAt_nullary 3207 _ _ rfl) <|
  Chain.cons (stepAt_unary 3208 _ _ _ rfl (by decide)) <|
  Chain.cons (stepAt_binary 3209 _ _ _ _ rfl (by decide) (by decide)) <|
  Chain.cons (stepAt_ternary 3210 _ _ _ _ _ rfl (by decide) (by decide) (by decide)) <|
  Chain.cons (stepAt_unary 3211 _ _ _ rfl (by decide)) <|
  Chain.cons (stepAt_unary 3212 _ _ _ rfl (by decide)) <|
  Chain.cons (stepAt_binary 3213 _ _ _ _ rfl (by decide) (by decide)) <|
  Chain.cons (stepAt_binary 3214 _ _ _ _ rfl (by decide) (by decide)) <|
  Chain.cons (stepAt_nullary 3215 _ _ rfl) <|
  Chain.cons (stepAt_unary 3216 _ _ _ rfl (by decide)) <|
  Chain.cons (stepAt_binary 3217 _ _ _ _ rfl (by decide) (by decide)) <|
  Chain.cons (stepAt_unary 3218 _ _ _ rfl (by decide)) <|
  Chain.cons (stepAt_unary 3219 _ _ _ rfl (by decide)) <|
  Chain.cons (stepAt_binary 3220 _ _ _ _ rfl (by decide) (by decide)) <|
  Chain.cons (stepAt_nullary 3221 _ _ rfl) <|
  Chain.cons (stepAt_unary 3222 _ _ _ rfl (by decide)) <|
  Chain.cons (stepAt_binary 3223 _ _ _ _ rfl (by decide) (by decide)) <|
  Chain.cons (stepAt_unary 3224 _ _ _ rfl (by decide)) <|
  Chain.cons (stepAt_unary 3225 _ _ _ rfl (by decide)) <|
  Chain.cons (stepAt_binary 3226 _ _ _ _ rfl (by decide) (by decide)) <|
  Chain.cons (stepAt_unary 3227 _ _ _ rfl (by decide)) <|
  Chain.cons (stepAt_unary 3228 _ _ _ rfl (by decide)) <|
  Chain.cons (stepAt_binary 3229 _ _ _ _ rfl (by decide) (by decide)) <|
  Chain.cons (stepAt_nullary 3230 _ _ rfl) <|
  Chain.cons (stepAt_unary 3231 _ _ _ rfl (by decide)) <|
  Chain.cons (stepAt_binary 3232 _ _ _ _ rfl (by decide) (by decide)) <|
  Chain.cons (stepAt_unary 3233 _ _ _ rfl (by decide)) <|
  Chain.cons (stepAt_unary 3234 _ _ _ rfl (by decide)) <|
  Chain.cons (stepAt_binary 3235 _ _ _ _ rfl (by decide) (by decide)) <|
  Chain.cons (stepAt_binary 3236 _ _ _ _ rfl (by decide) (by decide)) <|
  Chain.cons (stepAt_nullary 3237 _ _ rfl) <|
  Chain.cons (stepAt_unary 3238 _ _ _ rfl (by decide)) <|
  Chain.cons (stepAt_binary 3239 _ _ _ _ rfl (by decide) (by decide)) <|
  Chain.cons (stepAt_unary 3240 _ _ _ rfl (by decide)) <|
  Chain.cons (stepAt_unary 3241 _ _ _ rfl (by decide)) <|
  Chain.cons (stepAt_binary 3242 _ _ _ _ rfl (by decide) (by decide)) <|
  Chain.cons (stepAt_unary 3243 _ _ _ rfl (by decide)) <|
  Chain.cons (stepAt_unary 3244 _ _ _ rfl (by decide)) <|
  Chain.cons (stepAt_binary 3245 _ _ _ _ rfl (by decide) (by decide)) <|
  Chain.cons (stepAt_binary 3246 _ _ _ _ rfl (by decide) (by decide)) <|
  Chain.cons (stepAt_unary 3247 _ _ _ rfl (by decide)) <|
  Chain.nil
theorem w47_length : (w47 : List (HloOp τ sig (Elt F))).length = 60 := rfl

end Cert.ReferenceIdeal.Ops

end
-- ==== Proof.SimB14.lean ====
/- Operations 2653 … 2839 of the one program and 2664 … 2850 of the other apply the same functions to corresponding
   buffers. If both programs' final contents satisfy their own lines' equations and agree on the buffers these operations
   read from outside, they agree on what these operations write: one congruence per operation, in program order. -/
import proofs.«133805_j10187662426200_2_alg».proof.Proof.KIStretch2
import proofs.«133805_j10187662426200_2_alg».proof.Proof.KIStretch3
import proofs.«133805_j10187662426200_2_alg».proof.Proof.RefOps4
import proofs.«133805_j10187662426200_2_alg».proof.Proof.RefOps5
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B14 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_112 : List (HloOp Cert.KernelIdeal.τ Cert.KernelIdeal.sig (Elt F))).Forall fun op => ∀ b ∈ op.writes, Φ₁ b = op.result Φ₁ b)
    (fa1 : (Cert.KernelIdeal.Gen.hostOps0_113 : List (HloOp Cert.KernelIdeal.τ Cert.KernelIdeal.sig (Elt F))).Forall fun op => ∀ b ∈ op.writes, Φ₁ b = op.result Φ₁ b)
    (fa2 : (Cert.KernelIdeal.Gen.hostOps0_114 : List (HloOp Cert.KernelIdeal.τ Cert.KernelIdeal.sig (Elt F))).Forall fun op => ∀ b ∈ op.writes, Φ₁ b = op.result Φ₁ b)
    (fa3 : (Cert.KernelIdeal.Gen.hostOps0_115 : List (HloOp Cert.KernelIdeal.τ Cert.KernelIdeal.sig (Elt F))).Forall fun op => ∀ b ∈ op.writes, Φ₁ b = op.result Φ₁ b)
    (fa4 : (Cert.KernelIdeal.Gen.hostOps0_116 : List (HloOp Cert.KernelIdeal.τ Cert.KernelIdeal.sig (Elt F))).Forall fun op => ∀ b ∈ op.writes, Φ₁ b = op.result Φ₁ b)
    (fa5 : (Cert.KernelIdeal.Gen.hostOps0_117 : List (HloOp Cert.KernelIdeal.τ Cert.KernelIdeal.sig (Elt F))).Forall fun op => ∀ b ∈ op.writes, Φ₁ b = op.result Φ₁ b)
    (fa6 : (Cert.KernelIdeal.Gen.hostOps0_118 : List (HloOp Cert.KernelIdeal.τ Cert.KernelIdeal.sig (Elt F))).Forall fun op => ∀ b ∈ op.writes, Φ₁ b = op.result Φ₁ b)
    (fa7 : (Cert.KernelIdeal.Gen.hostOps0_119 : List (HloOp Cert.KernelIdeal.τ Cert.KernelIdeal.sig (Elt F))).Forall fun op => ∀ b ∈ op.writes, Φ₁ b = op.result Φ₁ b)
    (fa8 : (Cert.KernelIdeal.Gen.hostOps0_120 : List (HloOp Cert.KernelIdeal.τ Cert.KernelIdeal.sig (Elt F))).Forall fun op => ∀ b ∈ op.writes, Φ₁ b = op.result Φ₁ b)
    (fb0 : (Cert.ReferenceIdeal.Ops.w39 : List (HloOp Cert.ReferenceIdeal.τ Cert.ReferenceIdeal.sig (Elt F))).Forall fun op => ∀ b ∈ op.writes, Φ₂ b = op.result Φ₂ b)
    (fb1 : (Cert.ReferenceIdeal.Ops.w40 : List (HloOp Cert.ReferenceIdeal.τ Cert.ReferenceIdeal.sig (Elt F))).Forall fun op => ∀ b ∈ op.writes, Φ₂ b = op.result Φ₂ b)
    (fb2 : (Cert.ReferenceIdeal.Ops.w41 : List (HloOp Cert.ReferenceIdeal.τ Cert.ReferenceIdeal.sig (Elt F))).Forall fun op => ∀ b ∈ op.writes, Φ₂ b = op.result Φ₂ b)
    (fb3 : (Cert.ReferenceIdeal.Ops.w42 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_13)) (Φ₂ (Proc.devRef .tc Cert.ReferenceIdeal.main_c_13)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x256, .f32⟩ : BufTy).Contents (Elt F)) (Φ₁ (Proc.devRef .tc Cert.KernelIdeal.main_arg16)) (Φ₂ (Proc.devRef .tc Cert.ReferenceIdeal.main_arg16)))
    : @Eq ((⟨Cert.KernelIdeal.S131072x32, .f32⟩ : BufTy).Contents (Elt F)) (Φ₁ (Proc.devRef .tc Cert.KernelIdeal.main_v1943)) (Φ₂ (Proc.devRef .tc Cert.ReferenceIdeal.main_v1954)) := by
  have e0 : @Eq ((⟨Cert.KernelIdeal.S_, .i32⟩ : BufTy).Contents (Elt F)) (Φ₁ (Proc.devRef .tc Cert.KernelIdeal.main_c_556)) (Φ₂ (Proc.devRef .tc Cert.ReferenceIdeal.main_c_556)) := step0 (β := ((⟨Cert.KernelIdeal.S_, .i32⟩ : BufTy).Contents (Elt F))) (eq0 (at_ fa0 (i := 112) rfl) :) (eq0 (at_ fb0 (i := 44) rfl) :)
  have e1 : @Eq ((⟨Cert.KernelIdeal.S2, .i32⟩ : BufTy).Contents (Elt F)) (Φ₁ (Proc.devRef .tc Cert.KernelIdeal.main_v1815)) (Φ₂ (Proc.devRef .tc Cert.ReferenceIdeal.main_v1826)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 45) rfl) :) e0
  have e2 : @Eq ((⟨Cert.KernelIdeal.S2, .i1⟩ : BufTy).Contents (Elt F)) (Φ₁ (Proc.devRef .tc Cert.KernelIdeal.main_v1816)) (Φ₂ (Proc.devRef .tc Cert.ReferenceIdeal.main_v1827)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 46) rfl) :) x0 e1
  have e3 : @Eq ((⟨Cert.KernelIdeal.S_, .i32⟩ : BufTy).Contents (Elt F)) (Φ₁ (Proc.devRef .tc Cert.KernelIdeal.main_c_557)) (Φ₂ (Proc.devRef .tc Cert.ReferenceIdeal.main_c_557)) := step0 (β := ((⟨Cert.KernelIdeal.S_, .i32⟩ : BufTy).Contents (Elt F))) (eq0 (at_ fa0 (i := 115) rfl) :) (eq0 (at_ fb0 (i := 47) rfl) :)
  have e4 : @Eq ((⟨Cert.KernelIdeal.S2, .i32⟩ : BufTy).Contents (Elt F)) (Φ₁ (Proc.devRef .tc Cert.KernelIdeal.main_v1817)) (Φ₂ (Proc.devRef .tc Cert.ReferenceIdeal.main_v1828)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 48) rfl) :) e3
  have e5 : @Eq ((⟨Cert.KernelIdeal.S2, .i32⟩ : BufTy).Contents (Elt F)) (Φ₁ (Proc.devRef .tc Cert.KernelIdeal.main_v1818)) (Φ₂ (Proc.devRef .tc Cert.ReferenceIdeal.main_v1829)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 49) rfl) :) x0 e4
  have e6 : @Eq ((⟨Cert.KernelIdeal.S2, .i32⟩ : BufTy).Contents (Elt F)) (Φ₁ (Proc.devRef .tc Cert.KernelIdeal.main_v1819)) (Φ₂ (Proc.devRef .tc Cert.ReferenceIdeal.main_v1830)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 50) rfl) :) e2 e5 x0
  have e7 : @Eq ((⟨Cert.KernelIdeal.S2x1, .i32⟩ : BufTy).Contents (Elt F)) (Φ₁ (Proc.devRef .tc Cert.KernelIdeal.main_v1820)) (Φ₂ (Proc.devRef .tc Cert.ReferenceIdeal.main_v1831)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 51) rfl) :) e6
  have e8 : @Eq ((⟨Cert.KernelIdeal.S131072x2, .f32⟩ : BufTy).Contents (Elt F)) (Φ₁ (Proc.devRef .tc Cert.KernelIdeal.main_v1821)) (Φ₂ (Proc.devRef .tc Cert.ReferenceIdeal.main_v1832)) := by rw [eq2 (at_ fa0 (i := 120) rfl), eq2 (at_ fb0 (i := 52) rfl), x1, e7] <;> rfl
  have e9 : @Eq ((⟨Cert.KernelIdeal.S131072x1, .f32⟩ : BufTy).Contents (Elt F)) (Φ₁ (Proc.devRef .tc Cert.KernelIdeal.main_v1822)) (Φ₂ (Proc.devRef .tc Cert.ReferenceIdeal.main_v1833)) := by rw [eq1 (at_ fa0 (i := 121) rfl), eq1 (at_ fb0 (i := 53) rfl), e8] <;> rfl
  have e10 : @Eq ((⟨Cert.KernelIdeal.S131072, .f32⟩ : BufTy).Contents (Elt F)) (Φ₁ (Proc.devRef .tc Cert.KernelIdeal.main_v1823)) (Φ₂ (Proc.devRef .tc Cert.ReferenceIdeal.main_v1834)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 54) rfl) :) e9
  have e11 : @Eq ((⟨Cert.KernelIdeal.S_, .f32⟩ : BufTy).Contents (Elt F)) (Φ₁ (Proc.devRef .tc Cert.KernelIdeal.main_cst_558)) (Φ₂ (Proc.devRef .tc Cert.ReferenceIdeal.main_cst_558)) := step0 (β := ((⟨Cert.KernelIdeal.S_, .f32⟩ : BufTy).Contents (Elt F))) (eq0 (at_ fa0 (i := 123) rfl) :) (eq0 (at_ fb0 (i := 55) rfl) :)
  have e12 : @Eq ((⟨Cert.KernelIdeal.S131072, .f32⟩ : BufTy).Contents (Elt F)) (Φ₁ (Proc.devRef .tc Cert.KernelIdeal.main_v1824)) (Φ₂ (Proc.devRef .tc Cert.ReferenceIdeal.main_v1835)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 56) rfl) :) e11
  have e13 : @Eq ((⟨Cert.KernelIdeal.S131072, .f32⟩ : BufTy).Contents (Elt F)) (Φ₁ (Proc.devRef .tc Cert.KernelIdeal.main_v1825)) (Φ₂ (Proc.devRef .tc Cert.ReferenceIdeal.main_v1836)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 57) rfl) :) e10 e12
  have e14 : @Eq ((⟨Cert.KernelIdeal.S_, .f32⟩ : BufTy).Contents (Elt F)) (Φ₁ (Proc.devRef .tc Cert.KernelIdeal.main_cst_559)) (Φ₂ (Proc.devRef .tc Cert.ReferenceIdeal.main_cst_559)) := step0 (β := ((⟨Cert.KernelIdeal.S_, .f32⟩ : BufTy).Contents (Elt F))) (eq0 (at_ fa0 (i := 126) rfl) :) (eq0 (at_ fb0 (i := 58) rfl) :)
  have e15 : @Eq ((⟨Cert.KernelIdeal.S131072, .f32⟩ : BufTy).Contents (Elt F)) (Φ₁ (Proc.devRef .tc Cert.KernelIdeal.main_v1826)) (Φ₂ (Proc.devRef .tc Cert.ReferenceIdeal.main_v1837)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 59) rfl) :) e14
  have e16 : @Eq ((⟨Cert.KernelIdeal.S131072, .f32⟩ : BufTy).Contents (Elt F)) (Φ₁ (Proc.devRef .tc Cert.KernelIdeal.main_v1827)) (Φ₂ (Proc.devRef .tc Cert.ReferenceIdeal.main_v1838)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 0) rfl) :) e13 e15
  have e17 : @Eq ((⟨Cert.KernelIdeal.S_, .f32⟩ : BufTy).Contents (Elt F)) (Φ₁ (Proc.devRef .tc Cert.KernelIdeal.main_cst_560)) (Φ₂ (Proc.devRef .tc Cert.ReferenceIdeal.main_cst_560)) := step0 (β := ((⟨Cert.KernelIdeal.S_, .f32⟩ : BufTy).Contents (Elt F))) (eq0 (at_ fa0 (i := 129) rfl) :) (eq0 (at_ fb1 (i := 1) rfl) :)
  have e18 : @Eq ((⟨Cert.KernelIdeal.S131072, .f32⟩ : BufTy).Contents (Elt F)) (Φ₁ (Proc.devRef .tc Cert.KernelIdeal.main_v1828)) (Φ₂ (Proc.devRef .tc Cert.ReferenceIdeal.main_v1839)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 2) rfl) :) e17
  have e19 : @Eq ((⟨Cert.KernelIdeal.S131072, .f32⟩ : BufTy).Contents (Elt F)) (Φ₁ (Proc.devRef .tc Cert.KernelIdeal.main_v1829)) (Φ₂ (Proc.devRef .tc Cert.ReferenceIdeal.main_v1840)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 3) rfl) :) e16 e18
  have e20 : @Eq ((⟨Cert.KernelIdeal.S131072x1, .f32⟩ : BufTy).Contents (Elt F)) (Φ₁ (Proc.devRef .tc Cert.KernelIdeal.main_v1830)) (Φ₂ (Proc.devRef .tc Cert.ReferenceIdeal.main_v1841)) := by rw [eq1 (at_ fa0 (i := 132) rfl), eq1 (at_ fb1 (i := 4) rfl), e8] <;> rfl
  have e21 : @Eq ((⟨Cert.KernelIdeal.S131072, .f32⟩ : BufTy).Contents (Elt F)) (Φ₁ (Proc.devRef .tc Cert.KernelIdeal.main_v1831)) (Φ₂ (Proc.devRef .tc Cert.ReferenceIdeal.main_v1842)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 5) rfl) :) e20
  have e22 : @Eq ((⟨Cert.KernelIdeal.S_, .f32⟩ : BufTy).Contents (Elt F)) (Φ₁ (Proc.devRef .tc Cert.KernelIdeal.main_cst_561)) (Φ₂ (Proc.devRef .tc Cert.ReferenceIdeal.main_cst_561)) := step0 (β := ((⟨Cert.KernelIdeal.S_, .f32⟩ : BufTy).Contents (Elt F))) (eq0 (at_ fa0 (i := 134) rfl) :) (eq0 (at_ fb1 (i := 6) rfl) :)
  have e23 : @Eq ((⟨Cert.KernelIdeal.S131072, .f32⟩ : BufTy).Contents (Elt F)) (Φ₁ (Proc.devRef .tc Cert.KernelIdeal.main_v1832)) (Φ₂ (Proc.devRef .tc Cert.ReferenceIdeal.main_v1843)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 7) rfl) :) e22
  have e24 : @Eq ((⟨Cert.KernelIdeal.S131072, .f32⟩ : BufTy).Contents (Elt F)) (Φ₁ (Proc.devRef .tc Cert.KernelIdeal.main_v1833)) (Φ₂ (Proc.devRef .tc Cert.ReferenceIdeal.main_v1844)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 8) rfl) :) e21 e23
  have e25 : @Eq ((⟨Cert.KernelIdeal.S_, .f32⟩ : BufTy).Contents (Elt F)) (Φ₁ (Proc.devRef .tc Cert.KernelIdeal.main_cst_562)) (Φ₂ (Proc.devRef .tc Cert.ReferenceIdeal.main_cst_562)) := step0 (β := ((⟨Cert.KernelIdeal.S_, .f32⟩ : BufTy).Contents (Elt F))) (eq0 (at_ fa0 (i := 137) rfl) :) (eq0 (at_ fb1 (i := 9) rfl) :)
  have e26 : @Eq ((⟨Cert.KernelIdeal.S131072, .f32⟩ : BufTy).Contents (Elt F)) (Φ₁ (Proc.devRef .tc Cert.KernelIdeal.main_v1834)) (Φ₂ (Proc.devRef .tc Cert.ReferenceIdeal.main_v1845)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 10) rfl) :) e25
  have e27 : @Eq ((⟨Cert.KernelIdeal.S131072, .f32⟩ : BufTy).Contents (Elt F)) (Φ₁ (Proc.devRef .tc Cert.KernelIdeal.main_v1835)) (Φ₂ (Proc.devRef .tc Cert.ReferenceIdeal.main_v1846)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 11) rfl) :) e24 e26
  have e28 : @Eq ((⟨Cert.KernelIdeal.S_, .f32⟩ : BufTy).Contents (Elt F)) (Φ₁ (Proc.devRef .tc Cert.KernelIdeal.main_cst_563)) (Φ₂ (Proc.devRef .tc Cert.ReferenceIdeal.main_cst_563)) := step0 (β := ((⟨Cert.KernelIdeal.S_, .f32⟩ : BufTy).Contents (Elt F))) (eq0 (at_ fa0 (i := 140) rfl) :) (eq0 (at_ fb1 (i := 12) rfl) :)
  have e29 : @Eq ((⟨Cert.KernelIdeal.S131072, .f32⟩ : BufTy).Contents (Elt F)) (Φ₁ (Proc.devRef .tc Cert.KernelIdeal.main_v1836)) (Φ₂ (Proc.devRef .tc Cert.ReferenceIdeal.main_v1847)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 13) rfl) :) e28
  have e30 : @Eq ((⟨Cert.KernelIdeal.S131072, .f32⟩ : BufTy).Contents (Elt F)) (Φ₁ (Proc.devRef .tc Cert.KernelIdeal.main_v1837)) (Φ₂ (Proc.devRef .tc Cert.ReferenceIdeal.main_v1848)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 14) rfl) :) e27 e29
  have e31 : @Eq ((⟨Cert.KernelIdeal.S131072, .f32⟩ : BufTy).Contents (Elt F)) (Φ₁ (Proc.devRef .tc Cert.KernelIdeal.main_v1838)) (Φ₂ (Proc.devRef .tc Cert.ReferenceIdeal.main_v1849)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 15) rfl) :) e19
  have e32 : @Eq ((⟨Cert.KernelIdeal.S131072, .f32⟩ : BufTy).Contents (Elt F)) (Φ₁ (Proc.devRef .tc Cert.KernelIdeal.main_v1839)) (Φ₂ (Proc.devRef .tc Cert.ReferenceIdeal.main_v1850)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 16) rfl) :) e30
  have e33 : @Eq ((⟨Cert.KernelIdeal.S131072, .f32⟩ : BufTy).Contents (Elt F)) (Φ₁ (Proc.devRef .tc Cert.KernelIdeal.main_v1840)) (Φ₂ (Proc.devRef .tc Cert.ReferenceIdeal.main_v1851)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 17) rfl) :) e19 e31
  have e34 : @Eq ((⟨Cert.KernelIdeal.S131072, .f32⟩ : BufTy).Contents (Elt F)) (Φ₁ (Proc.devRef .tc Cert.KernelIdeal.main_v1841)) (Φ₂ (Proc.devRef .tc Cert.ReferenceIdeal.main_v1852)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 18) rfl) :) e30 e32
  have e35 : @Eq ((⟨Cert.KernelIdeal.S131072, .i32⟩ : BufTy).Contents (Elt F)) (Φ₁ (Proc.devRef .tc Cert.KernelIdeal.main_v1842)) (Φ₂ (Proc.devRef .tc Cert.ReferenceIdeal.main_v1853)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 19) rfl) :) e31
  have e36 : @Eq ((⟨Cert.KernelIdeal.S_, .i32⟩ : BufTy).Contents (Elt F)) (Φ₁ (Proc.devRef .tc Cert.KernelIdeal.main_c_564)) (Φ₂ (Proc.devRef .tc Cert.ReferenceIdeal.main_c_564)) := step0 (β := ((⟨Cert.KernelIdeal.S_, .i32⟩ : BufTy).Contents (Elt F))) (eq0 (at_ fa0 (i := 148) rfl) :) (eq0 (at_ fb1 (i := 20) rfl) :)
  have e37 : @Eq ((⟨Cert.KernelIdeal.S_, .i32⟩ : BufTy).Contents (Elt F)) (Φ₁ (Proc.devRef .tc Cert.KernelIdeal.main_c_565)) (Φ₂ (Proc.devRef .tc Cert.ReferenceIdeal.main_c_565)) := step0 (β := ((⟨Cert.KernelIdeal.S_, .i32⟩ : BufTy).Contents (Elt F))) (eq0 (at_ fa0 (i := 149) rfl) :) (eq0 (at_ fb1 (i := 21) rfl) :)
  have e38 : @Eq ((⟨Cert.KernelIdeal.S_, .i32⟩ : BufTy).Contents (Elt F)) (Φ₁ (Proc.devRef .tc Cert.KernelIdeal.main_call56_v0)) (Φ₂ (Proc.devRef .tc Cert.ReferenceIdeal.main_call56_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 22) rfl) :) e36
  have e39 : @Eq ((⟨Cert.KernelIdeal.S131072, .i32⟩ : BufTy).Contents (Elt F)) (Φ₁ (Proc.devRef .tc Cert.KernelIdeal.main_call56_v1)) (Φ₂ (Proc.devRef .tc Cert.ReferenceIdeal.main_call56_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 23) rfl) :) e38
  have e40 : @Eq ((⟨Cert.KernelIdeal.S131072, .i32⟩ : BufTy).Contents (Elt F)) (Φ₁ (Proc.devRef .tc Cert.KernelIdeal.main_call56_v2)) (Φ₂ (Proc.devRef .tc Cert.ReferenceIdeal.main_call56_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 24) rfl) :) e39 e35
  have e41 : @Eq ((⟨Cert.KernelIdeal.S_, .i32⟩ : BufTy).Contents (Elt F)) (Φ₁ (Proc.devRef .tc Cert.KernelIdeal.main_call56_v3)) (Φ₂ (Proc.devRef .tc Cert.ReferenceIdeal.main_call56_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 25) rfl) :) e37
  have e42 : @Eq ((⟨Cert.KernelIdeal.S131072, .i32⟩ : BufTy).Contents (Elt F)) (Φ₁ (Proc.devRef .tc Cert.KernelIdeal.main_call56_v4)) (Φ₂ (Proc.devRef .tc Cert.ReferenceIdeal.main_call56_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 26) rfl) :) e41
  have e43 : @Eq ((⟨Cert.KernelIdeal.S131072, .i32⟩ : BufTy).Contents (Elt F)) (Φ₁ (Proc.devRef .tc Cert.KernelIdeal.main_v1843)) (Φ₂ (Proc.devRef .tc Cert.ReferenceIdeal.main_v1854)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 27) rfl) :) e42 e40
  have e44 : @Eq ((⟨Cert.KernelIdeal.S_, .i32⟩ : BufTy).Contents (Elt F)) (Φ₁ (Proc.devRef .tc Cert.KernelIdeal.main_c_566)) (Φ₂ (Proc.devRef .tc Cert.ReferenceIdeal.main_c_566)) := step0 (β := ((⟨Cert.KernelIdeal.S_, .i32⟩ : BufTy).Contents (Elt F))) (eq0 (at_ fa2 (i := 0) rfl) :) (eq0 (at_ fb1 (i := 28) rfl) :)
  have e45 : @Eq ((⟨Cert.KernelIdeal.S131072, .i32⟩ : BufTy).Contents (Elt F)) (Φ₁ (Proc.devRef .tc Cert.KernelIdeal.main_v1844)) (Φ₂ (Proc.devRef .tc Cert.ReferenceIdeal.main_v1855)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 29) rfl) :) e44
  have e46 : @Eq ((⟨Cert.KernelIdeal.S131072, .i32⟩ : BufTy).Contents (Elt F)) (Φ₁ (Proc.devRef .tc Cert.KernelIdeal.main_v1845)) (Φ₂ (Proc.devRef .tc Cert.ReferenceIdeal.main_v1856)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 30) rfl) :) e43 e45
  have e47 : @Eq ((⟨Cert.KernelIdeal.S_, .i32⟩ : BufTy).Contents (Elt F)) (Φ₁ (Proc.devRef .tc Cert.KernelIdeal.main_c_567)) (Φ₂ (Proc.devRef .tc Cert.ReferenceIdeal.main_c_567)) := step0 (β := ((⟨Cert.KernelIdeal.S_, .i32⟩ : BufTy).Contents (Elt F))) (eq0 (at_ fa2 (i := 3) rfl) :) (eq0 (at_ fb1 (i := 31) rfl) :)
  have e48 : @Eq ((⟨Cert.KernelIdeal.S_, .i32⟩ : BufTy).Contents (Elt F)) (Φ₁ (Proc.devRef .tc Cert.KernelIdeal.main_c_568)) (Φ₂ (Proc.devRef .tc Cert.ReferenceIdeal.main_c_568)) := step0 (β := ((⟨Cert.KernelIdeal.S_, .i32⟩ : BufTy).Contents (Elt F))) (eq0 (at_ fa2 (i := 4) rfl) :) (eq0 (at_ fb1 (i := 32) rfl) :)
  have e49 : @Eq ((⟨Cert.KernelIdeal.S_, .i32⟩ : BufTy).Contents (Elt F)) (Φ₁ (Proc.devRef .tc Cert.KernelIdeal.main_call57_v0)) (Φ₂ (Proc.devRef .tc Cert.ReferenceIdeal.main_call57_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 33) rfl) :) e47
  have e50 : @Eq ((⟨Cert.KernelIdeal.S131072, .i32⟩ : BufTy).Contents (Elt F)) (Φ₁ (Proc.devRef .tc Cert.KernelIdeal.main_call57_v1)) (Φ₂ (Proc.devRef .tc Cert.ReferenceIdeal.main_call57_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 34) rfl) :) e49
  have e51 : @Eq ((⟨Cert.KernelIdeal.S131072, .i32⟩ : BufTy).Contents (Elt F)) (Φ₁ (Proc.devRef .tc Cert.KernelIdeal.main_call57_v2)) (Φ₂ (Proc.devRef .tc Cert.ReferenceIdeal.main_call57_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 35) rfl) :) e50 e46
  have e52 : @Eq ((⟨Cert.KernelIdeal.S_, .i32⟩ : BufTy).Contents (Elt F)) (Φ₁ (Proc.devRef .tc Cert.KernelIdeal.main_call57_v3)) (Φ₂ (Proc.devRef .tc Cert.ReferenceIdeal.main_call57_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 36) rfl) :) e48
  have e53 : @Eq ((⟨Cert.KernelIdeal.S131072, .i32⟩ : BufTy).Contents (Elt F)) (Φ₁ (Proc.devRef .tc Cert.KernelIdeal.main_call57_v4)) (Φ₂ (Proc.devRef .tc Cert.ReferenceIdeal.main_call57_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 37) rfl) :) e52
  have e54 : @Eq ((⟨Cert.KernelIdeal.S131072, .i32⟩ : BufTy).Contents (Elt F)) (Φ₁ (Proc.devRef .tc Cert.KernelIdeal.main_v1846)) (Φ₂ (Proc.devRef .tc Cert.ReferenceIdeal.main_v1857)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 38) rfl) :) e53 e51
  have e55 : @Eq ((⟨Cert.KernelIdeal.S131072, .i32⟩ : BufTy).Contents (Elt F)) (Φ₁ (Proc.devRef .tc Cert.KernelIdeal.main_v1847)) (Φ₂ (Proc.devRef .tc Cert.ReferenceIdeal.main_v1858)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 39) rfl) :) e32
  have e56 : @Eq ((⟨Cert.KernelIdeal.S_, .i32⟩ : BufTy).Contents (Elt F)) (Φ₁ (Proc.devRef .tc Cert.KernelIdeal.main_c_569)) (Φ₂ (Proc.devRef .tc Cert.ReferenceIdeal.main_c_569)) := step0 (β := ((⟨Cert.KernelIdeal.S_, .i32⟩ : BufTy).Contents (Elt F))) (eq0 (at_ fa4 (i := 1) rfl) :) (eq0 (at_ fb1 (i := 40) rfl) :)
  have e57 : @Eq ((⟨Cert.KernelIdeal.S_, .i32⟩ : BufTy).Contents (Elt F)) (Φ₁ (Proc.devRef .tc Cert.KernelIdeal.main_c_570)) (Φ₂ (Proc.devRef .tc Cert.ReferenceIdeal.main_c_570)) := step0 (β := ((⟨Cert.KernelIdeal.S_, .i32⟩ : BufTy).Contents (Elt F))) (eq0 (at_ fa4 (i := 2) rfl) :) (eq0 (at_ fb1 (i := 41) rfl) :)
  have e58 : @Eq ((⟨Cert.KernelIdeal.S_, .i32⟩ : BufTy).Contents (Elt F)) (Φ₁ (Proc.devRef .tc Cert.KernelIdeal.main_call58_v0)) (Φ₂ (Proc.devRef .tc Cert.ReferenceIdeal.main_call58_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 42) rfl) :) e56
  have e59 : @Eq ((⟨Cert.KernelIdeal.S131072, .i32⟩ : BufTy).Contents (Elt F)) (Φ₁ (Proc.devRef .tc Cert.KernelIdeal.main_call58_v1)) (Φ₂ (Proc.devRef .tc Cert.ReferenceIdeal.main_call58_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 43) rfl) :) e58
  have e60 : @Eq ((⟨Cert.KernelIdeal.S131072, .i32⟩ : BufTy).Contents (Elt F)) (Φ₁ (Proc.devRef .tc Cert.KernelIdeal.main_call58_v2)) (Φ₂ (Proc.devRef .tc Cert.ReferenceIdeal.main_call58_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 44) rfl) :) e59 e55
  have e61 : @Eq ((⟨Cert.KernelIdeal.S_, .i32⟩ : BufTy).Contents (Elt F)) (Φ₁ (Proc.devRef .tc Cert.KernelIdeal.main_call58_v3)) (Φ₂ (Proc.devRef .tc Cert.ReferenceIdeal.main_call58_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 45) rfl) :) e57
  have e62 : @Eq ((⟨Cert.KernelIdeal.S131072, .i32⟩ : BufTy).Contents (Elt F)) (Φ₁ (Proc.devRef .tc Cert.KernelIdeal.main_call58_v4)) (Φ₂ (Proc.devRef .tc Cert.ReferenceIdeal.main_call58_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 46) rfl) :) e61
  have e63 : @Eq ((⟨Cert.KernelIdeal.S131072, .i32⟩ : BufTy).Contents (Elt F)) (Φ₁ (Proc.devRef .tc Cert.KernelIdeal.main_v1848)) (Φ₂ (Proc.devRef .tc Cert.ReferenceIdeal.main_v1859)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 47) rfl) :) e62 e60
  have e64 : @Eq ((⟨Cert.KernelIdeal.S_, .i32⟩ : BufTy).Contents (Elt F)) (Φ₁ (Proc.devRef .tc Cert.KernelIdeal.main_c_571)) (Φ₂ (Proc.devRef .tc Cert.ReferenceIdeal.main_c_571)) := step0 (β := ((⟨Cert.KernelIdeal.S_, .i32⟩ : BufTy).Contents (Elt F))) (eq0 (at_ fa6 (i := 0) rfl) :) (eq0 (at_ fb1 (i := 48) rfl) :)
  have e65 : @Eq ((⟨Cert.KernelIdeal.S131072, .i32⟩ : BufTy).Contents (Elt F)) (Φ₁ (Proc.devRef .tc Cert.KernelIdeal.main_v1849)) (Φ₂ (Proc.devRef .tc Cert.ReferenceIdeal.main_v1860)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 49) rfl) :) e64
  have e66 : @Eq ((⟨Cert.KernelIdeal.S131072, .i32⟩ : BufTy).Contents (Elt F)) (Φ₁ (Proc.devRef .tc Cert.KernelIdeal.main_v1850)) (Φ₂ (Proc.devRef .tc Cert.ReferenceIdeal.main_v1861)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 50) rfl) :) e63 e65
  have e67 : @Eq ((⟨Cert.KernelIdeal.S_, .i32⟩ : BufTy).Contents (Elt F)) (Φ₁ (Proc.devRef .tc Cert.KernelIdeal.main_c_572)) (Φ₂ (Proc.devRef .tc Cert.ReferenceIdeal.main_c_572)) := step0 (β := ((⟨Cert.KernelIdeal.S_, .i32⟩ : BufTy).Contents (Elt F))) (eq0 (at_ fa6 (i := 3) rfl) :) (eq0 (at_ fb1 (i := 51) rfl) :)
  have e68 : @Eq ((⟨Cert.KernelIdeal.S_, .i32⟩ : BufTy).Contents (Elt F)) (Φ₁ (Proc.devRef .tc Cert.KernelIdeal.main_c_573)) (Φ₂ (Proc.devRef .tc Cert.ReferenceIdeal.main_c_573)) := step0 (β := ((⟨Cert.KernelIdeal.S_, .i32⟩ : BufTy).Contents (Elt F))) (eq0 (at_ fa6 (i := 4) rfl) :) (eq0 (at_ fb1 (i := 52) rfl) :)
  have e69 : @Eq ((⟨Cert.KernelIdeal.S_, .i32⟩ : BufTy).Contents (Elt F)) (Φ₁ (Proc.devRef .tc Cert.KernelIdeal.main_call59_v0)) (Φ₂ (Proc.devRef .tc Cert.ReferenceIdeal.main_call59_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 53) rfl) :) e67
  have e70 : @Eq ((⟨Cert.KernelIdeal.S131072, .i32⟩ : BufTy).Contents (Elt F)) (Φ₁ (Proc.devRef .tc Cert.KernelIdeal.main_call59_v1)) (Φ₂ (Proc.devRef .tc Cert.ReferenceIdeal.main_call59_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 54) rfl) :) e69
  have e71 : @Eq ((⟨Cert.KernelIdeal.S131072, .i32⟩ : BufTy).Contents (Elt F)) (Φ₁ (Proc.devRef .tc Cert.KernelIdeal.main_call59_v2)) (Φ₂ (Proc.devRef .tc Cert.ReferenceIdeal.main_call59_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 55) rfl) :) e70 e66
  have e72 : @Eq ((⟨Cert.KernelIdeal.S_, .i32⟩ : BufTy).Contents (Elt F)) (Φ₁ (Proc.devRef .tc Cert.KernelIdeal.main_call59_v3)) (Φ₂ (Proc.devRef .tc Cert.ReferenceIdeal.main_call59_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 56) rfl) :) e68
  have e73 : @Eq ((⟨Cert.KernelIdeal.S131072, .i32⟩ : BufTy).Contents (Elt F)) (Φ₁ (Proc.devRef .tc Cert.KernelIdeal.main_call59_v4)) (Φ₂ (Proc.devRef .tc Cert.ReferenceIdeal.main_call59_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 57) rfl) :) e72
  have e74 : @Eq ((⟨Cert.KernelIdeal.S131072, .i32⟩ : BufTy).Contents (Elt F)) (Φ₁ (Proc.devRef .tc Cert.KernelIdeal.main_v1851)) (Φ₂ (Proc.devRef .tc Cert.ReferenceIdeal.main_v1862)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 58) rfl) :) e73 e71
  have e75 : @Eq ((⟨Cert.KernelIdeal.S_, .i32⟩ : BufTy).Contents (Elt F)) (Φ₁ (Proc.devRef .tc Cert.KernelIdeal.main_c_574)) (Φ₂ (Proc.devRef .tc Cert.ReferenceIdeal.main_c_574)) := step0 (β := ((⟨Cert.KernelIdeal.S_, .i32⟩ : BufTy).Contents (Elt F))) (eq0 (at_ fa8 (i := 0) rfl) :) (eq0 (at_ fb1 (i := 59) rfl) :)
  have e76 : @Eq ((⟨Cert.KernelIdeal.S131072, .i32⟩ : BufTy).Contents (Elt F)) (Φ₁ (Proc.devRef .tc Cert.KernelIdeal.main_v1852)) (Φ₂ (Proc.devRef .tc Cert.ReferenceIdeal.main_v1863)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 60) rfl) :) e75
  have e77 : @Eq ((⟨Cert.KernelIdeal.S131072, .i1⟩ : BufTy).Contents (Elt F)) (Φ₁ (Proc.devRef .tc Cert.KernelIdeal.main_v1853)) (Φ₂ (Proc.devRef .tc Cert.ReferenceIdeal.main_v1864)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 61) rfl) :) e63 e76
  have e78 : @Eq ((⟨Cert.KernelIdeal.S_, .i32⟩ : BufTy).Contents (Elt F)) (Φ₁ (Proc.devRef .tc Cert.KernelIdeal.main_c_575)) (Φ₂ (Proc.devRef .tc Cert.ReferenceIdeal.main_c_575)) := step0 (β := ((⟨Cert.KernelIdeal.S_, .i32⟩ : BufTy).Contents (Elt F))) (eq0 (at_ fa8 (i := 3) rfl) :) (eq0 (at_ fb1 (i := 62) rfl) :)
  have e79 : @Eq ((⟨Cert.KernelIdeal.S131072, .i32⟩ : BufTy).Contents (Elt F)) (Φ₁ (Proc.devRef .tc Cert.KernelIdeal.main_v1854)) (Φ₂ (Proc.devRef .tc Cert.ReferenceIdeal.main_v1865)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 63) rfl) :) e78
  have e80 : @Eq ((⟨Cert.KernelIdeal.S131072, .i32⟩ : BufTy).Contents (Elt F)) (Φ₁ (Proc.devRef .tc Cert.KernelIdeal.main_v1855)) (Φ₂ (Proc.devRef .tc Cert.ReferenceIdeal.main_v1866)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 64) rfl) :) e63 e79
  have e81 : @Eq ((⟨Cert.KernelIdeal.S131072, .i32⟩ : BufTy).Contents (Elt F)) (Φ₁ (Proc.devRef .tc Cert.KernelIdeal.main_v1856)) (Φ₂ (Proc.devRef .tc Cert.ReferenceIdeal.main_v1867)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 65) rfl) :) e77 e80 e63
  have e82 : @Eq ((⟨Cert.KernelIdeal.S_, .i32⟩ : BufTy).Contents (Elt F)) (Φ₁ (Proc.devRef .tc Cert.KernelIdeal.main_c_576)) (Φ₂ (Proc.devRef .tc Cert.ReferenceIdeal.main_c_576)) := step0 (β := ((⟨Cert.KernelIdeal.S_, .i32⟩ : BufTy).Contents (Elt F))) (eq0 (at_ fa8 (i := 7) rfl) :) (eq0 (at_ fb1 (i := 66) rfl) :)
  have e83 : @Eq ((⟨Cert.KernelIdeal.S131072, .i32⟩ : BufTy).Contents (Elt F)) (Φ₁ (Proc.devRef .tc Cert.KernelIdeal.main_v1857)) (Φ₂ (Proc.devRef .tc Cert.ReferenceIdeal.main_v1868)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 67) rfl) :) e82
  have e84 : @Eq ((⟨Cert.KernelIdeal.S131072, .i1⟩ : BufTy).Contents (Elt F)) (Φ₁ (Proc.devRef .tc Cert.KernelIdeal.main_v1858)) (Φ₂ (Proc.devRef .tc Cert.ReferenceIdeal.main_v1869)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 68) rfl) :) e43 e83
  have e85 : @Eq ((⟨Cert.KernelIdeal.S_, .i32⟩ : BufTy).Contents (Elt F)) (Φ₁ (Proc.devRef .tc Cert.KernelIdeal.main_c_577)) (Φ₂ (Proc.devRef .tc Cert.ReferenceIdeal.main_c_577)) := step0 (β := ((⟨Cert.KernelIdeal.S_, .i32⟩ : BufTy).Contents (Elt F))) (eq0 (at_ fa8 (i := 10) rfl) :) (eq0 (at_ fb1 (i := 69) rfl) :)
  have e86 : @Eq ((⟨Cert.KernelIdeal.S131072, .i32⟩ : BufTy).Contents (Elt F)) (Φ₁ (Proc.devRef .tc Cert.KernelIdeal.main_v1859)) (Φ₂ (Proc.devRef .tc Cert.ReferenceIdeal.main_v1870)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 70) rfl) :) e85
  have e87 : @Eq ((⟨Cert.KernelIdeal.S131072, .i32⟩ : BufTy).Contents (Elt F)) (Φ₁ (Proc.devRef .tc Cert.KernelIdeal.main_v1860)) (Φ₂ (Proc.devRef .tc Cert.ReferenceIdeal.main_v1871)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 71) rfl) :) e43 e86
  have e88 : @Eq ((⟨Cert.KernelIdeal.S131072, .i32⟩ : BufTy).Contents (Elt F)) (Φ₁ (Proc.devRef .tc Cert.KernelIdeal.main_v1861)) (Φ₂ (Proc.devRef .tc Cert.ReferenceIdeal.main_v1872)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 72) rfl) :) e84 e87 e43
  have e89 : @Eq ((⟨Cert.KernelIdeal.S131072x1, .i32⟩ : BufTy).Contents (Elt F)) (Φ₁ (Proc.devRef .tc Cert.KernelIdeal.main_v1862)) (Φ₂ (Proc.devRef .tc Cert.ReferenceIdeal.main_v1873)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 73) rfl) :) e81
  have e90 : @Eq ((⟨Cert.KernelIdeal.S131072x1, .i32⟩ : BufTy).Contents (Elt F)) (Φ₁ (Proc.devRef .tc Cert.KernelIdeal.main_v1863)) (Φ₂ (Proc.devRef .tc Cert.ReferenceIdeal.main_v1874)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 74) rfl) :) e88
  have e91 : @Eq ((⟨Cert.KernelIdeal.S131072x2, .i32⟩ : BufTy).Contents (Elt F)) (Φ₁ (Proc.devRef .tc Cert.KernelIdeal.main_v1864)) (Φ₂ (Proc.devRef .tc Cert.ReferenceIdeal.main_v1875)) := by rw [eq2 (at_ fa8 (i := 16) rfl), eq2 (at_ fb1 (i := 75) rfl), e89, e90] <;> rfl
  have e92 : @Eq ((⟨Cert.KernelIdeal.S32x131072, .f32⟩ : BufTy).Contents (Elt F)) (Φ₁ (Proc.devRef .tc Cert.KernelIdeal.main_v1865)) (Φ₂ (Proc.devRef .tc Cert.ReferenceIdeal.main_v1876)) := by rw [eq2 (at_ fa8 (i := 17) rfl), eq2 (at_ fb1 (i := 76) rfl), x2, e91] <;> rfl
  have e93 : @Eq ((⟨Cert.KernelIdeal.S_, .i32⟩ : BufTy).Contents (Elt F)) (Φ₁ (Proc.devRef .tc Cert.KernelIdeal.main_c_578)) (Φ₂ (Proc.devRef .tc Cert.ReferenceIdeal.main_c_578)) := step0 (β := ((⟨Cert.KernelIdeal.S_, .i32⟩ : BufTy).Contents (Elt F))) (eq0 (at_ fa8 (i := 18) rfl) :) (eq0 (at_ fb1 (i := 77) rfl) :)
  have e94 : @Eq ((⟨Cert.KernelIdeal.S131072, .i32⟩ : BufTy).Contents (Elt F)) (Φ₁ (Proc.devRef .tc Cert.KernelIdeal.main_v1866)) (Φ₂ (Proc.devRef .tc Cert.ReferenceIdeal.main_v1877)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 78) rfl) :) e93
  have e95 : @Eq ((⟨Cert.KernelIdeal.S131072, .i1⟩ : BufTy).Contents (Elt F)) (Φ₁ (Proc.devRef .tc Cert.KernelIdeal.main_v1867)) (Φ₂ (Proc.devRef .tc Cert.ReferenceIdeal.main_v1878)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 79) rfl) :) e63 e94
  have e96 : @Eq ((⟨Cert.KernelIdeal.S_, .i32⟩ : BufTy).Contents (Elt F)) (Φ₁ (Proc.devRef .tc Cert.KernelIdeal.main_c_579)) (Φ₂ (Proc.devRef .tc Cert.ReferenceIdeal.main_c_579)) := step0 (β := ((⟨Cert.KernelIdeal.S_, .i32⟩ : BufTy).Contents (Elt F))) (eq0 (at_ fa8 (i := 21) rfl) :) (eq0 (at_ fb2 (i := 0) rfl) :)
  have e97 : @Eq ((⟨Cert.KernelIdeal.S131072, .i32⟩ : BufTy).Contents (Elt F)) (Φ₁ (Proc.devRef .tc Cert.KernelIdeal.main_v1868)) (Φ₂ (Proc.devRef .tc Cert.ReferenceIdeal.main_v1879)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 1) rfl) :) e96
  have e98 : @Eq ((⟨Cert.KernelIdeal.S131072, .i32⟩ : BufTy).Contents (Elt F)) (Φ₁ (Proc.devRef .tc Cert.KernelIdeal.main_v1869)) (Φ₂ (Proc.devRef .tc Cert.ReferenceIdeal.main_v1880)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 2) rfl) :) e63 e97
  have e99 : @Eq ((⟨Cert.KernelIdeal.S131072, .i32⟩ : BufTy).Contents (Elt F)) (Φ₁ (Proc.devRef .tc Cert.KernelIdeal.main_v1870)) (Φ₂ (Proc.devRef .tc Cert.ReferenceIdeal.main_v1881)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 3) rfl) :) e95 e98 e63
  have e100 : @Eq ((⟨Cert.KernelIdeal.S_, .i32⟩ : BufTy).Contents (Elt F)) (Φ₁ (Proc.devRef .tc Cert.KernelIdeal.main_c_580)) (Φ₂ (Proc.devRef .tc Cert.ReferenceIdeal.main_c_580)) := step0 (β := ((⟨Cert.KernelIdeal.S_, .i32⟩ : BufTy).Contents (Elt F))) (eq0 (at_ fa8 (i := 25) rfl) :) (eq0 (at_ fb2 (i := 4) rfl) :)
  have e101 : @Eq ((⟨Cert.KernelIdeal.S131072, .i32⟩ : BufTy).Contents (Elt F)) (Φ₁ (Proc.devRef .tc Cert.KernelIdeal.main_v1871)) (Φ₂ (Proc.devRef .tc Cert.ReferenceIdeal.main_v1882)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 5) rfl) :) e100
  have e102 : @Eq ((⟨Cert.KernelIdeal.S131072, .i1⟩ : BufTy).Contents (Elt F)) (Φ₁ (Proc.devRef .tc Cert.KernelIdeal.main_v1872)) (Φ₂ (Proc.devRef .tc Cert.ReferenceIdeal.main_v1883)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 6) rfl) :) e54 e101
  have e103 : @Eq ((⟨Cert.KernelIdeal.S_, .i32⟩ : BufTy).Contents (Elt F)) (Φ₁ (Proc.devRef .tc Cert.KernelIdeal.main_c_581)) (Φ₂ (Proc.devRef .tc Cert.ReferenceIdeal.main_c_581)) := step0 (β := ((⟨Cert.KernelIdeal.S_, .i32⟩ : BufTy).Contents (Elt F))) (eq0 (at_ fa8 (i := 28) rfl) :) (eq0 (at_ fb2 (i := 7) rfl) :)
  have e104 : @Eq ((⟨Cert.KernelIdeal.S131072, .i32⟩ : BufTy).Contents (Elt F)) (Φ₁ (Proc.devRef .tc Cert.KernelIdeal.main_v1873)) (Φ₂ (Proc.devRef .tc Cert.ReferenceIdeal.main_v1884)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 8) rfl) :) e103
  have e105 : @Eq ((⟨Cert.KernelIdeal.S131072, .i32⟩ : BufTy).Contents (Elt F)) (Φ₁ (Proc.devRef .tc Cert.KernelIdeal.main_v1874)) (Φ₂ (Proc.devRef .tc Cert.ReferenceIdeal.main_v1885)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 9) rfl) :) e54 e104
  have e106 : @Eq ((⟨Cert.KernelIdeal.S131072, .i32⟩ : BufTy).Contents (Elt F)) (Φ₁ (Proc.devRef .tc Cert.KernelIdeal.main_v1875)) (Φ₂ (Proc.devRef .tc Cert.ReferenceIdeal.main_v1886)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 10) rfl) :) e102 e105 e54
  have e107 : @Eq ((⟨Cert.KernelIdeal.S131072x1, .i32⟩ : BufTy).Contents (Elt F)) (Φ₁ (Proc.devRef .tc Cert.KernelIdeal.main_v1876)) (Φ₂ (Proc.devRef .tc Cert.ReferenceIdeal.main_v1887)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 11) rfl) :) e99
  have e108 : @Eq ((⟨Cert.KernelIdeal.S131072x1, .i32⟩ : BufTy).Contents (Elt F)) (Φ₁ (Proc.devRef .tc Cert.KernelIdeal.main_v1877)) (Φ₂ (Proc.devRef .tc Cert.ReferenceIdeal.main_v1888)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 12) rfl) :) e106
  have e109 : @Eq ((⟨Cert.KernelIdeal.S131072x2, .i32⟩ : BufTy).Contents (Elt F)) (Φ₁ (Proc.devRef .tc Cert.KernelIdeal.main_v1878)) (Φ₂ (Proc.devRef .tc Cert.ReferenceIdeal.main_v1889)) := by rw [eq2 (at_ fa8 (i := 34) rfl), eq2 (at_ fb2 (i := 13) rfl), e107, e108] <;> rfl
  have e110 : @Eq ((⟨Cert.KernelIdeal.S32x131072, .f32⟩ : BufTy).Contents (Elt F)) (Φ₁ (Proc.devRef .tc Cert.KernelIdeal.main_v1879)) (Φ₂ (Proc.devRef .tc Cert.ReferenceIdeal.main_v1890)) := by rw [eq2 (at_ fa8 (i := 35) rfl), eq2 (at_ fb2 (i := 14) rfl), x2, e109] <;> rfl
  have e111 : @Eq ((⟨Cert.KernelIdeal.S_, .i32⟩ : BufTy).Contents (Elt F)) (Φ₁ (Proc.devRef .tc Cert.KernelIdeal.main_c_582)) (Φ₂ (Proc.devRef .tc Cert.ReferenceIdeal.main_c_582)) := step0 (β := ((⟨Cert.KernelIdeal.S_, .i32⟩ : BufTy).Contents (Elt F))) (eq0 (at_ fa8 (i := 36) rfl) :) (eq0 (at_ fb2 (i := 15) rfl) :)
  have e112 : @Eq ((⟨Cert.KernelIdeal.S131072, .i32⟩ : BufTy).Contents (Elt F)) (Φ₁ (Proc.devRef .tc Cert.KernelIdeal.main_v1880)) (Φ₂ (Proc.devRef .tc Cert.ReferenceIdeal.main_v1891)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 16) rfl) :) e111
  have e113 : @Eq ((⟨Cert.KernelIdeal.S131072, .i1⟩ : BufTy).Contents (Elt F)) (Φ₁ (Proc.devRef .tc Cert.KernelIdeal.main_v1881)) (Φ₂ (Proc.devRef .tc Cert.ReferenceIdeal.main_v1892)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 17) rfl) :) e74 e112
  have e114 : @Eq ((⟨Cert.KernelIdeal.S_, .i32⟩ : BufTy).Contents (Elt F)) (Φ₁ (Proc.devRef .tc Cert.KernelIdeal.main_c_583)) (Φ₂ (Proc.devRef .tc Cert.ReferenceIdeal.main_c_583)) := step0 (β := ((⟨Cert.KernelIdeal.S_, .i32⟩ : BufTy).Contents (Elt F))) (eq0 (at_ fa8 (i := 39) rfl) :) (eq0 (at_ fb2 (i := 18) rfl) :)
  have e115 : @Eq ((⟨Cert.KernelIdeal.S131072, .i32⟩ : BufTy).Contents (Elt F)) (Φ₁ (Proc.devRef .tc Cert.KernelIdeal.main_v1882)) (Φ₂ (Proc.devRef .tc Cert.ReferenceIdeal.main_v1893)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 19) rfl) :) e114
  have e116 : @Eq ((⟨Cert.KernelIdeal.S131072, .i32⟩ : BufTy).Contents (Elt F)) (Φ₁ (Proc.devRef .tc Cert.KernelIdeal.main_v1883)) (Φ₂ (Proc.devRef .tc Cert.ReferenceIdeal.main_v1894)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 20) rfl) :) e74 e115
  have e117 : @Eq ((⟨Cert.KernelIdeal.S131072, .i32⟩ : BufTy).Contents (Elt F)) (Φ₁ (Proc.devRef .tc Cert.KernelIdeal.main_v1884)) (Φ₂ (Proc.devRef .tc Cert.ReferenceIdeal.main_v1895)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 21) rfl) :) e113 e116 e74
  have e118 : @Eq ((⟨Cert.KernelIdeal.S_, .i32⟩ : BufTy).Contents (Elt F)) (Φ₁ (Proc.devRef .tc Cert.KernelIdeal.main_c_584)) (Φ₂ (Proc.devRef .tc Cert.ReferenceIdeal.main_c_584)) := step0 (β := ((⟨Cert.KernelIdeal.S_, .i32⟩ : BufTy).Contents (Elt F))) (eq0 (at_ fa8 (i := 43) rfl) :) (eq0 (at_ fb2 (i := 22) rfl) :)
  have e119 : @Eq ((⟨Cert.KernelIdeal.S131072, .i32⟩ : BufTy).Contents (Elt F)) (Φ₁ (Proc.devRef .tc Cert.KernelIdeal.main_v1885)) (Φ₂ (Proc.devRef .tc Cert.ReferenceIdeal.main_v1896)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 23) rfl) :) e118
  have e120 : @Eq ((⟨Cert.KernelIdeal.S131072, .i1⟩ : BufTy).Contents (Elt F)) (Φ₁ (Proc.devRef .tc Cert.KernelIdeal.main_v1886)) (Φ₂ (Proc.devRef .tc Cert.ReferenceIdeal.main_v1897)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 24) rfl) :) e43 e119
  have e121 : @Eq ((⟨Cert.KernelIdeal.S_, .i32⟩ : BufTy).Contents (Elt F)) (Φ₁ (Proc.devRef .tc Cert.KernelIdeal.main_c_585)) (Φ₂ (Proc.devRef .tc Cert.ReferenceIdeal.main_c_585)) := step0 (β := ((⟨Cert.KernelIdeal.S_, .i32⟩ : BufTy).Contents (Elt F))) (eq0 (at_ fa8 (i := 46) rfl) :) (eq0 (at_ fb2 (i := 25) rfl) :)
  have e122 : @Eq ((⟨Cert.KernelIdeal.S131072, .i32⟩ : BufTy).Contents (Elt F)) (Φ₁ (Proc.devRef .tc Cert.KernelIdeal.main_v1887)) (Φ₂ (Proc.devRef .tc Cert.ReferenceIdeal.main_v1898)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 26) rfl) :) e121
  have e123 : @Eq ((⟨Cert.KernelIdeal.S131072, .i32⟩ : BufTy).Contents (Elt F)) (Φ₁ (Proc.devRef .tc Cert.KernelIdeal.main_v1888)) (Φ₂ (Proc.devRef .tc Cert.ReferenceIdeal.main_v1899)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 27) rfl) :) e43 e122
  have e124 : @Eq ((⟨Cert.KernelIdeal.S131072, .i32⟩ : BufTy).Contents (Elt F)) (Φ₁ (Proc.devRef .tc Cert.KernelIdeal.main_v1889)) (Φ₂ (Proc.devRef .tc Cert.ReferenceIdeal.main_v1900)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 28) rfl) :) e120 e123 e43
  have e125 : @Eq ((⟨Cert.KernelIdeal.S131072x1, .i32⟩ : BufTy).Contents (Elt F)) (Φ₁ (Proc.devRef .tc Cert.KernelIdeal.main_v1890)) (Φ₂ (Proc.devRef .tc Cert.ReferenceIdeal.main_v1901)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 29) rfl) :) e117
  have e126 : @Eq ((⟨Cert.KernelIdeal.S131072x1, .i32⟩ : BufTy).Contents (Elt F)) (Φ₁ (Proc.devRef .tc Cert.KernelIdeal.main_v1891)) (Φ₂ (Proc.devRef .tc Cert.ReferenceIdeal.main_v1902)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 30) rfl) :) e124
  have e127 : @Eq ((⟨Cert.KernelIdeal.S131072x2, .i32⟩ : BufTy).Contents (Elt F)) (Φ₁ (Proc.devRef .tc Cert.KernelIdeal.main_v1892)) (Φ₂ (Proc.devRef .tc Cert.ReferenceIdeal.main_v1903)) := by rw [eq2 (at_ fa8 (i := 52) rfl), eq2 (at_ fb2 (i := 31) rfl), e125, e126] <;> rfl
  have e128 : @Eq ((⟨Cert.KernelIdeal.S32x131072, .f32⟩ : BufTy).Contents (Elt F)) (Φ₁ (Proc.devRef .tc Cert.KernelIdeal.main_v1893)) (Φ₂ (Proc.devRef .tc Cert.ReferenceIdeal.main_v1904)) := by rw [eq2 (at_ fa8 (i := 53) rfl), eq2 (at_ fb2 (i := 32) rfl), x2, e127] <;> rfl
  have e129 : @Eq ((⟨Cert.KernelIdeal.S_, .i32⟩ : BufTy).Contents (Elt F)) (Φ₁ (Proc.devRef .tc Cert.KernelIdeal.main_c_586)) (Φ₂ (Proc.devRef .tc Cert.ReferenceIdeal.main_c_586)) := step0 (β := ((⟨Cert.KernelIdeal.S_, .i32⟩ : BufTy).Contents (Elt F))) (eq0 (at_ fa8 (i := 54) rfl) :) (eq0 (at_ fb2 (i := 33) rfl) :)
  have e130 : @Eq ((⟨Cert.KernelIdeal.S131072, .i32⟩ : BufTy).Contents (Elt F)) (Φ₁ (Proc.devRef .tc Cert.KernelIdeal.main_v1894)) (Φ₂ (Proc.devRef .tc Cert.ReferenceIdeal.main_v1905)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 34) rfl) :) e129
  have e131 : @Eq ((⟨Cert.KernelIdeal.S131072, .i1⟩ : BufTy).Contents (Elt F)) (Φ₁ (Proc.devRef .tc Cert.KernelIdeal.main_v1895)) (Φ₂ (Proc.devRef .tc Cert.ReferenceIdeal.main_v1906)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 35) rfl) :) e74 e130
  have e132 : @Eq ((⟨Cert.KernelIdeal.S_, .i32⟩ : BufTy).Contents (Elt F)) (Φ₁ (Proc.devRef .tc Cert.KernelIdeal.main_c_587)) (Φ₂ (Proc.devRef .tc Cert.ReferenceIdeal.main_c_587)) := step0 (β := ((⟨Cert.KernelIdeal.S_, .i32⟩ : BufTy).Contents (Elt F))) (eq0 (at_ fa8 (i := 57) rfl) :) (eq0 (at_ fb2 (i := 36) rfl) :)
  have e133 : @Eq ((⟨Cert.KernelIdeal.S131072, .i32⟩ : BufTy).Contents (Elt F)) (Φ₁ (Proc.devRef .tc Cert.KernelIdeal.main_v1896)) (Φ₂ (Proc.devRef .tc Cert.ReferenceIdeal.main_v1907)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 37) rfl) :) e132
  have e134 : @Eq ((⟨Cert.KernelIdeal.S131072, .i32⟩ : BufTy).Contents (Elt F)) (Φ₁ (Proc.devRef .tc Cert.KernelIdeal.main_v1897)) (Φ₂ (Proc.devRef .tc Cert.ReferenceIdeal.main_v1908)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 38) rfl) :) e74 e133
  have e135 : @Eq ((⟨Cert.KernelIdeal.S131072, .i32⟩ : BufTy).Contents (Elt F)) (Φ₁ (Proc.devRef .tc Cert.KernelIdeal.main_v1898)) (Φ₂ (Proc.devRef .tc Cert.ReferenceIdeal.main_v1909)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 39) rfl) :) e131 e134 e74
  have e136 : @Eq ((⟨Cert.KernelIdeal.S_, .i32⟩ : BufTy).Contents (Elt F)) (Φ₁ (Proc.devRef .tc Cert.KernelIdeal.main_c_588)) (Φ₂ (Proc.devRef .tc Cert.ReferenceIdeal.main_c_588)) := step0 (β := ((⟨Cert.KernelIdeal.S_, .i32⟩ : BufTy).Contents (Elt F))) (eq0 (at_ fa8 (i := 61) rfl) :) (eq0 (at_ fb2 (i := 40) rfl) :)
  have e137 : @Eq ((⟨Cert.KernelIdeal.S131072, .i32⟩ : BufTy).Contents (Elt F)) (Φ₁ (Proc.devRef .tc Cert.KernelIdeal.main_v1899)) (Φ₂ (Proc.devRef .tc Cert.ReferenceIdeal.main_v1910)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 41) rfl) :) e136
  have e138 : @Eq ((⟨Cert.KernelIdeal.S131072, .i1⟩ : BufTy).Contents (Elt F)) (Φ₁ (Proc.devRef .tc Cert.KernelIdeal.main_v1900)) (Φ₂ (Proc.devRef .tc Cert.ReferenceIdeal.main_v1911)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 42) rfl) :) e54 e137
  have e139 : @Eq ((⟨Cert.KernelIdeal.S_, .i32⟩ : BufTy).Contents (Elt F)) (Φ₁ (Proc.devRef .tc Cert.KernelIdeal.main_c_589)) (Φ₂ (Proc.devRef .tc Cert.ReferenceIdeal.main_c_589)) := step0 (β := ((⟨Cert.KernelIdeal.S_, .i32⟩ : BufTy).Contents (Elt F))) (eq0 (at_ fa8 (i := 64) rfl) :) (eq0 (at_ fb2 (i := 43) rfl) :)
  have e140 : @Eq ((⟨Cert.KernelIdeal.S131072, .i32⟩ : BufTy).Contents (Elt F)) (Φ₁ (Proc.devRef .tc Cert.KernelIdeal.main_v1901)) (Φ₂ (Proc.devRef .tc Cert.ReferenceIdeal.main_v1912)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 44) rfl) :) e139
  have e141 : @Eq ((⟨Cert.KernelIdeal.S131072, .i32⟩ : BufTy).Contents (Elt F)) (Φ₁ (Proc.devRef .tc Cert.KernelIdeal.main_v1902)) (Φ₂ (Proc.devRef .tc Cert.ReferenceIdeal.main_v1913)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 45) rfl) :) e54 e140
  have e142 : @Eq ((⟨Cert.KernelIdeal.S131072, .i32⟩ : BufTy).Contents (Elt F)) (Φ₁ (Proc.devRef .tc Cert.KernelIdeal.main_v1903)) (Φ₂ (Proc.devRef .tc Cert.ReferenceIdeal.main_v1914)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 46) rfl) :) e138 e141 e54
  have e143 : @Eq ((⟨Cert.KernelIdeal.S131072x1, .i32⟩ : BufTy).Contents (Elt F)) (Φ₁ (Proc.devRef .tc Cert.KernelIdeal.main_v1904)) (Φ₂ (Proc.devRef .tc Cert.ReferenceIdeal.main_v1915)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 47) rfl) :) e135
  have e144 : @Eq ((⟨Cert.KernelIdeal.S131072x1, .i32⟩ : BufTy).Contents (Elt F)) (Φ₁ (Proc.devRef .tc Cert.KernelIdeal.main_v1905)) (Φ₂ (Proc.devRef .tc Cert.ReferenceIdeal.main_v1916)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 48) rfl) :) e142
  have e145 : @Eq ((⟨Cert.KernelIdeal.S131072x2, .i32⟩ : BufTy).Contents (Elt F)) (Φ₁ (Proc.devRef .tc Cert.KernelIdeal.main_v1906)) (Φ₂ (Proc.devRef .tc Cert.ReferenceIdeal.main_v1917)) := by rw [eq2 (at_ fa8 (i := 70) rfl), eq2 (at_ fb2 (i := 49) rfl), e143, e144] <;> rfl
  have e146 : @Eq ((⟨Cert.KernelIdeal.S32x131072, .f32⟩ : BufTy).Contents (Elt F)) (Φ₁ (Proc.devRef .tc Cert.KernelIdeal.main_v1907)) (Φ₂ (Proc.devRef .tc Cert.ReferenceIdeal.main_v1918)) := by rw [eq2 (at_ fa8 (i := 71) rfl), eq2 (at_ fb2 (i := 50) rfl), x2, e145] <;> rfl
  have e147 : @Eq ((⟨Cert.KernelIdeal.S_, .f32⟩ : BufTy).Contents (Elt F)) (Φ₁ (Proc.devRef .tc Cert.KernelIdeal.main_cst_590)) (Φ₂ (Proc.devRef .tc Cert.ReferenceIdeal.main_cst_590)) := step0 (β := ((⟨Cert.KernelIdeal.S_, .f32⟩ : BufTy).Contents (Elt F))) (eq0 (at_ fa8 (i := 72) rfl) :) (eq0 (at_ fb2 (i := 51) rfl) :)
  have e148 : @Eq ((⟨Cert.KernelIdeal.S131072, .f32⟩ : BufTy).Contents (Elt F)) (Φ₁ (Proc.devRef .tc Cert.KernelIdeal.main_v1908)) (Φ₂ (Proc.devRef .tc Cert.ReferenceIdeal.main_v1919)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 52) rfl) :) e147
  have e149 : @Eq ((⟨Cert.KernelIdeal.S131072, .f32⟩ : BufTy).Contents (Elt F)) (Φ₁ (Proc.devRef .tc Cert.KernelIdeal.main_v1909)) (Φ₂ (Proc.devRef .tc Cert.ReferenceIdeal.main_v1920)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 53) rfl) :) e148 e33
  have e150 : @Eq ((⟨Cert.KernelIdeal.S1x131072, .f32⟩ : BufTy).Contents (Elt F)) (Φ₁ (Proc.devRef .tc Cert.KernelIdeal.main_v1910)) (Φ₂ (Proc.devRef .tc Cert.ReferenceIdeal.main_v1921)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 54) rfl) :) e149
  have e151 : @Eq ((⟨Cert.KernelIdeal.S32x131072, .f32⟩ : BufTy).Contents (Elt F)) (Φ₁ (Proc.devRef .tc Cert.KernelIdeal.main_v1911)) (Φ₂ (Proc.devRef .tc Cert.ReferenceIdeal.main_v1922)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 55) rfl) :) e150
  have e152 : @Eq ((⟨Cert.KernelIdeal.S32x131072, .f32⟩ : BufTy).Contents (Elt F)) (Φ₁ (Proc.devRef .tc Cert.KernelIdeal.main_v1912)) (Φ₂ (Proc.devRef .tc Cert.ReferenceIdeal.main_v1923)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 56) rfl) :) e92 e151
  have e153 : @Eq ((⟨Cert.KernelIdeal.S_, .f32⟩ : BufTy).Contents (Elt F)) (Φ₁ (Proc.devRef .tc Cert.KernelIdeal.main_cst_591)) (Φ₂ (Proc.devRef .tc Cert.ReferenceIdeal.main_cst_591)) := step0 (β := ((⟨Cert.KernelIdeal.S_, .f32⟩ : BufTy).Contents (Elt F))) (eq0 (at_ fa8 (i := 78) rfl) :) (eq0 (at_ fb2 (i := 57) rfl) :)
  have e154 : @Eq ((⟨Cert.KernelIdeal.S131072, .f32⟩ : BufTy).Contents (Elt F)) (Φ₁ (Proc.devRef .tc Cert.KernelIdeal.main_v1913)) (Φ₂ (Proc.devRef .tc Cert.ReferenceIdeal.main_v1924)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 58) rfl) :) e153
  have e155 : @Eq ((⟨Cert.KernelIdeal.S131072, .f32⟩ : BufTy).Contents (Elt F)) (Φ₁ (Proc.devRef .tc Cert.KernelIdeal.main_v1914)) (Φ₂ (Proc.devRef .tc Cert.ReferenceIdeal.main_v1925)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 59) rfl) :) e154 e34
  have e156 : @Eq ((⟨Cert.KernelIdeal.S1x131072, .f32⟩ : BufTy).Contents (Elt F)) (Φ₁ (Proc.devRef .tc Cert.KernelIdeal.main_v1915)) (Φ₂ (Proc.devRef .tc Cert.ReferenceIdeal.main_v1926)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 0) rfl) :) e155
  have e157 : @Eq ((⟨Cert.KernelIdeal.S32x131072, .f32⟩ : BufTy).Contents (Elt F)) (Φ₁ (Proc.devRef .tc Cert.KernelIdeal.main_v1916)) (Φ₂ (Proc.devRef .tc Cert.ReferenceIdeal.main_v1927)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 1) rfl) :) e156
  have e158 : @Eq ((⟨Cert.KernelIdeal.S32x131072, .f32⟩ : BufTy).Contents (Elt F)) (Φ₁ (Proc.devRef .tc Cert.KernelIdeal.main_v1917)) (Φ₂ (Proc.devRef .tc Cert.ReferenceIdeal.main_v1928)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 2) rfl) :) e152 e157
  have e159 : @Eq ((⟨Cert.KernelIdeal.S1x131072, .f32⟩ : BufTy).Contents (Elt F)) (Φ₁ (Proc.devRef .tc Cert.KernelIdeal.main_v1918)) (Φ₂ (Proc.devRef .tc Cert.ReferenceIdeal.main_v1929)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 3) rfl) :) e33
  have e160 : @Eq ((⟨Cert.KernelIdeal.S32x131072, .f32⟩ : BufTy).Contents (Elt F)) (Φ₁ (Proc.devRef .tc Cert.KernelIdeal.main_v1919)) (Φ₂ (Proc.devRef .tc Cert.ReferenceIdeal.main_v1930)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 4) rfl) :) e159
  have e161 : @Eq ((⟨Cert.KernelIdeal.S32x131072, .f32⟩ : BufTy).Contents (Elt F)) (Φ₁ (Proc.devRef .tc Cert.KernelIdeal.main_v1920)) (Φ₂ (Proc.devRef .tc Cert.ReferenceIdeal.main_v1931)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 5) rfl) :) e110 e160
  have e162 : @Eq ((⟨Cert.KernelIdeal.S_, .f32⟩ : BufTy).Contents (Elt F)) (Φ₁ (Proc.devRef .tc Cert.KernelIdeal.main_cst_592)) (Φ₂ (Proc.devRef .tc Cert.ReferenceIdeal.main_cst_592)) := step0 (β := ((⟨Cert.KernelIdeal.S_, .f32⟩ : BufTy).Contents (Elt F))) (eq0 (at_ fa8 (i := 87) rfl) :) (eq0 (at_ fb3 (i := 6) rfl) :)
  have e163 : @Eq ((⟨Cert.KernelIdeal.S131072, .f32⟩ : BufTy).Contents (Elt F)) (Φ₁ (Proc.devRef .tc Cert.KernelIdeal.main_v1921)) (Φ₂ (Proc.devRef .tc Cert.ReferenceIdeal.main_v1932)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 7) rfl) :) e162
  have e164 : @Eq ((⟨Cert.KernelIdeal.S131072, .f32⟩ : BufTy).Contents (Elt F)) (Φ₁ (Proc.devRef .tc Cert.KernelIdeal.main_v1922)) (Φ₂ (Proc.devRef .tc Cert.ReferenceIdeal.main_v1933)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 8) rfl) :) e163 e34
  have e165 : @Eq ((⟨Cert.KernelIdeal.S1x131072, .f32⟩ : BufTy).Contents (Elt F)) (Φ₁ (Proc.devRef .tc Cert.KernelIdeal.main_v1923)) (Φ₂ (Proc.devRef .tc Cert.ReferenceIdeal.main_v1934)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 9) rfl) :) e164
  have e166 : @Eq ((⟨Cert.KernelIdeal.S32x131072, .f32⟩ : BufTy).Contents (Elt F)) (Φ₁ (Proc.devRef .tc Cert.KernelIdeal.main_v1924)) (Φ₂ (Proc.devRef .tc Cert.ReferenceIdeal.main_v1935)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 10) rfl) :) e165
  have e167 : @Eq ((⟨Cert.KernelIdeal.S32x131072, .f32⟩ : BufTy).Contents (Elt F)) (Φ₁ (Proc.devRef .tc Cert.KernelIdeal.main_v1925)) (Φ₂ (Proc.devRef .tc Cert.ReferenceIdeal.main_v1936)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 11) rfl) :) e161 e166
  have e168 : @Eq ((⟨Cert.KernelIdeal.S32x131072, .f32⟩ : BufTy).Contents (Elt F)) (Φ₁ (Proc.devRef .tc Cert.KernelIdeal.main_v1926)) (Φ₂ (Proc.devRef .tc Cert.ReferenceIdeal.main_v1937)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 12) rfl) :) e158 e167
  have e169 : @Eq ((⟨Cert.KernelIdeal.S_, .f32⟩ : BufTy).Contents (Elt F)) (Φ₁ (Proc.devRef .tc Cert.KernelIdeal.main_cst_593)) (Φ₂ (Proc.devRef .tc Cert.ReferenceIdeal.main_cst_593)) := step0 (β := ((⟨Cert.KernelIdeal.S_, .f32⟩ : BufTy).Contents (Elt F))) (eq0 (at_ fa8 (i := 94) rfl) :) (eq0 (at_ fb3 (i := 13) rfl) :)
  have e170 : @Eq ((⟨Cert.KernelIdeal.S131072, .f32⟩ : BufTy).Contents (Elt F)) (Φ₁ (Proc.devRef .tc Cert.KernelIdeal.main_v1927)) (Φ₂ (Proc.devRef .tc Cert.ReferenceIdeal.main_v1938)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 14) rfl) :) e169
  have e171 : @Eq ((⟨Cert.KernelIdeal.S131072, .f32⟩ : BufTy).Contents (Elt F)) (Φ₁ (Proc.devRef .tc Cert.KernelIdeal.main_v1928)) (Φ₂ (Proc.devRef .tc Cert.ReferenceIdeal.main_v1939)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 15) rfl) :) e170 e33
  have e172 : @Eq ((⟨Cert.KernelIdeal.S1x131072, .f32⟩ : BufTy).Contents (Elt F)) (Φ₁ (Proc.devRef .tc Cert.KernelIdeal.main_v1929)) (Φ₂ (Proc.devRef .tc Cert.ReferenceIdeal.main_v1940)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 16) rfl) :) e171
  have e173 : @Eq ((⟨Cert.KernelIdeal.S32x131072, .f32⟩ : BufTy).Contents (Elt F)) (Φ₁ (Proc.devRef .tc Cert.KernelIdeal.main_v1930)) (Φ₂ (Proc.devRef .tc Cert.ReferenceIdeal.main_v1941)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 17) rfl) :) e172
  have e174 : @Eq ((⟨Cert.KernelIdeal.S32x131072, .f32⟩ : BufTy).Contents (Elt F)) (Φ₁ (Proc.devRef .tc Cert.KernelIdeal.main_v1931)) (Φ₂ (Proc.devRef .tc Cert.ReferenceIdeal.main_v1942)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 18) rfl) :) e128 e173
  have e175 : @Eq ((⟨Cert.KernelIdeal.S1x131072, .f32⟩ : BufTy).Contents (Elt F)) (Φ₁ (Proc.devRef .tc Cert.KernelIdeal.main_v1932)) (Φ₂ (Proc.devRef .tc Cert.ReferenceIdeal.main_v1943)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 19) rfl) :) e34
  have e176 : @Eq ((⟨Cert.KernelIdeal.S32x131072, .f32⟩ : BufTy).Contents (Elt F)) (Φ₁ (Proc.devRef .tc Cert.KernelIdeal.main_v1933)) (Φ₂ (Proc.devRef .tc Cert.ReferenceIdeal.main_v1944)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 20) rfl) :) e175
  have e177 : @Eq ((⟨Cert.KernelIdeal.S32x131072, .f32⟩ : BufTy).Contents (Elt F)) (Φ₁ (Proc.devRef .tc Cert.KernelIdeal.main_v1934)) (Φ₂ (Proc.devRef .tc Cert.ReferenceIdeal.main_v1945)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 21) rfl) :) e174 e176
  have e178 : @Eq ((⟨Cert.KernelIdeal.S32x131072, .f32⟩ : BufTy).Contents (Elt F)) (Φ₁ (Proc.devRef .tc Cert.KernelIdeal.main_v1935)) (Φ₂ (Proc.devRef .tc Cert.ReferenceIdeal.main_v1946)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 22) rfl) :) e168 e177
  have e179 : @Eq ((⟨Cert.KernelIdeal.S1x131072, .f32⟩ : BufTy).Contents (Elt F)) (Φ₁ (Proc.devRef .tc Cert.KernelIdeal.main_v1936)) (Φ₂ (Proc.devRef .tc Cert.ReferenceIdeal.main_v1947)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 23) rfl) :) e33
  have e180 : @Eq ((⟨Cert.KernelIdeal.S32x131072, .f32⟩ : BufTy).Contents (Elt F)) (Φ₁ (Proc.devRef .tc Cert.KernelIdeal.main_v1937)) (Φ₂ (Proc.devRef .tc Cert.ReferenceIdeal.main_v1948)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 24) rfl) :) e179
  have e181 : @Eq ((⟨Cert.KernelIdeal.S32x131072, .f32⟩ : BufTy).Contents (Elt F)) (Φ₁ (Proc.devRef .tc Cert.KernelIdeal.main_v1938)) (Φ₂ (Proc.devRef .tc Cert.ReferenceIdeal.main_v1949)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 25) rfl) :) e146 e180
  have e182 : @Eq ((⟨Cert.KernelIdeal.S1x131072, .f32⟩ : BufTy).Contents (Elt F)) (Φ₁ (Proc.devRef .tc Cert.KernelIdeal.main_v1939)) (Φ₂ (Proc.devRef .tc Cert.ReferenceIdeal.main_v1950)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 26) rfl) :) e34
  have e183 : @Eq ((⟨Cert.KernelIdeal.S32x131072, .f32⟩ : BufTy).Contents (Elt F)) (Φ₁ (Proc.devRef .tc Cert.KernelIdeal.main_v1940)) (Φ₂ (Proc.devRef .tc Cert.ReferenceIdeal.main_v1951)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 27) rfl) :) e182
  have e184 : @Eq ((⟨Cert.KernelIdeal.S32x131072, .f32⟩ : BufTy).Contents (Elt F)) (Φ₁ (Proc.devRef .tc Cert.KernelIdeal.main_v1941)) (Φ₂ (Proc.devRef .tc Cert.ReferenceIdeal.main_v1952)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 28) rfl) :) e181 e183
  have e185 : @Eq ((⟨Cert.KernelIdeal.S32x131072, .f32⟩ : BufTy).Contents (Elt F)) (Φ₁ (Proc.devRef .tc Cert.KernelIdeal.main_v1942)) (Φ₂ (Proc.devRef .tc Cert.ReferenceIdeal.main_v1953)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 29) rfl) :) e178 e184
  have e186 : @Eq ((⟨Cert.KernelIdeal.S131072x32, .f32⟩ : BufTy).Contents (Elt F)) (Φ₁ (Proc.devRef .tc Cert.KernelIdeal.main_v1943)) (Φ₂ (Proc.devRef .tc Cert.ReferenceIdeal.main_v1954)) := by rw [eq1 (at_ fa8 (i := 111) rfl), eq1 (at_ fb3 (i := 30) rfl), e185] <;> rfl
  exact e186

end Cert.Bridge

end
-- ==== Proof.SimB15.lean ====
/- Operations 2840 … 3026 of the one program and 2852 … 3038 of the other apply the same functions to corresponding
   buffers. If both programs' final contents satisfy their own lines' equations and agree on the buffers these operations
   read from outside, they agree on what these operations write: one congruence per operation, in program order. -/
import proofs.«133805_j10187662426200_2_alg».proof.Proof.KIStretch3
import proofs.«133805_j10187662426200_2_alg».proof.Proof.RefOps5
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B15 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_120 : List (HloOp Cert.KernelIdeal.τ Cert.KernelIdeal.sig (Elt F))).Forall fun op => ∀ b ∈ op.writes, Φ₁ b = op.result Φ₁ b)
    (fa1 : (Cert.KernelIdeal.Gen.hostOps0_121 : List (HloOp Cert.KernelIdeal.τ Cert.KernelIdeal.sig (Elt F))).Forall fun op => ∀ b ∈ op.writes, Φ₁ b = op.result Φ₁ b)
    (fa2 : (Cert.KernelIdeal.Gen.hostOps0_122 : List (HloOp Cert.KernelIdeal.τ Cert.KernelIdeal.sig (Elt F))).Forall fun op => ∀ b ∈ op.writes, Φ₁ b = op.result Φ₁ b)
    (fa3 : (Cert.KernelIdeal.Gen.hostOps0_123 : List (HloOp Cert.KernelIdeal.τ Cert.KernelIdeal.sig (Elt F))).Forall fun op => ∀ b ∈ op.writes, Φ₁ b = op.result Φ₁ b)
    (fa4 : (Cert.KernelIdeal.Gen.hostOps0_124 : List (HloOp Cert.KernelIdeal.τ Cert.KernelIdeal.sig (Elt F))).Forall fun op => ∀ b ∈ op.writes, Φ₁ b = op.result Φ₁ b)
    (fa5 : (Cert.KernelIdeal.Gen.hostOps0_125 : List (HloOp Cert.KernelIdeal.τ Cert.KernelIdeal.sig (Elt F))).Forall fun op => ∀ b ∈ op.writes, Φ₁ b = op.result Φ₁ b)
    (fa6 : (Cert.KernelIdeal.Gen.hostOps0_126 : List (HloOp Cert.KernelIdeal.τ Cert.KernelIdeal.sig (Elt F))).Forall fun op => ∀ b ∈ op.writes, Φ₁ b = op.result Φ₁ b)
    (fa7 : (Cert.KernelIdeal.Gen.hostOps0_127 : List (HloOp Cert.KernelIdeal.τ Cert.KernelIdeal.sig (Elt F))).Forall fun op => ∀ b ∈ op.writes, Φ₁ b = op.result Φ₁ b)
    (fa8 : (Cert.KernelIdeal.Gen.hostOps0_128 : List (HloOp Cert.KernelIdeal.τ Cert.KernelIdeal.sig (Elt F))).Forall fun op => ∀ b ∈ op.writes, Φ₁ b = op.result Φ₁ b)
    (fb0 : (Cert.ReferenceIdeal.Ops.w42 : List (HloOp Cert.ReferenceIdeal.τ Cert.ReferenceIdeal.sig (Elt F))).Forall fun op => ∀ b ∈ op.writes, Φ₂ b = op.result Φ₂ b)
    (fb1 : (Cert.ReferenceIdeal.Ops.w43 : List (HloOp Cert.ReferenceIdeal.τ Cert.ReferenceIdeal.sig (Elt F))).Forall fun op => ∀ b ∈ op.writes, Φ₂ b = op.result Φ₂ b)
    (fb2 : (Cert.ReferenceIdeal.Ops.w44 : List (HloOp Cert.ReferenceIdeal.τ Cert.ReferenceIdeal.sig (Elt F))).Forall fun op => ∀ b ∈ op.writes, Φ₂ b = op.result Φ₂ b)
    (fb3 : (Cert.ReferenceIdeal.Ops.w45 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_14)) (Φ₂ (Proc.devRef .tc Cert.ReferenceIdeal.main_c_14)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x256x256, .f32⟩ : BufTy).Contents (Elt F)) (Φ₁ (Proc.devRef .tc Cert.KernelIdeal.main_arg17)) (Φ₂ (Proc.devRef .tc Cert.ReferenceIdeal.main_arg17)))
    : @Eq ((⟨Cert.KernelIdeal.S131072x32, .f32⟩ : BufTy).Contents (Elt F)) (Φ₁ (Proc.devRef .tc Cert.KernelIdeal.main_v2072)) (Φ₂ (Proc.devRef .tc Cert.ReferenceIdeal.main_v2084)) := by
  have e0 : @Eq ((⟨Cert.KernelIdeal.S_, .i32⟩ : BufTy).Contents (Elt F)) (Φ₁ (Proc.devRef .tc Cert.KernelIdeal.main_c_594)) (Φ₂ (Proc.devRef .tc Cert.ReferenceIdeal.main_c_594)) := step0 (β := ((⟨Cert.KernelIdeal.S_, .i32⟩ : BufTy).Contents (Elt F))) (eq0 (at_ fa0 (i := 112) rfl) :) (eq0 (at_ fb0 (i := 32) rfl) :)
  have e1 : @Eq ((⟨Cert.KernelIdeal.S2, .i32⟩ : BufTy).Contents (Elt F)) (Φ₁ (Proc.devRef .tc Cert.KernelIdeal.main_v1944)) (Φ₂ (Proc.devRef .tc Cert.ReferenceIdeal.main_v1956)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 33) rfl) :) e0
  have e2 : @Eq ((⟨Cert.KernelIdeal.S2, .i1⟩ : BufTy).Contents (Elt F)) (Φ₁ (Proc.devRef .tc Cert.KernelIdeal.main_v1945)) (Φ₂ (Proc.devRef .tc Cert.ReferenceIdeal.main_v1957)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 34) rfl) :) x0 e1
  have e3 : @Eq ((⟨Cert.KernelIdeal.S_, .i32⟩ : BufTy).Contents (Elt F)) (Φ₁ (Proc.devRef .tc Cert.KernelIdeal.main_c_595)) (Φ₂ (Proc.devRef .tc Cert.ReferenceIdeal.main_c_595)) := step0 (β := ((⟨Cert.KernelIdeal.S_, .i32⟩ : BufTy).Contents (Elt F))) (eq0 (at_ fa0 (i := 115) rfl) :) (eq0 (at_ fb0 (i := 35) rfl) :)
  have e4 : @Eq ((⟨Cert.KernelIdeal.S2, .i32⟩ : BufTy).Contents (Elt F)) (Φ₁ (Proc.devRef .tc Cert.KernelIdeal.main_v1946)) (Φ₂ (Proc.devRef .tc Cert.ReferenceIdeal.main_v1958)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 36) rfl) :) e3
  have e5 : @Eq ((⟨Cert.KernelIdeal.S2, .i32⟩ : BufTy).Contents (Elt F)) (Φ₁ (Proc.devRef .tc Cert.KernelIdeal.main_v1947)) (Φ₂ (Proc.devRef .tc Cert.ReferenceIdeal.main_v1959)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 37) rfl) :) x0 e4
  have e6 : @Eq ((⟨Cert.KernelIdeal.S2, .i32⟩ : BufTy).Contents (Elt F)) (Φ₁ (Proc.devRef .tc Cert.KernelIdeal.main_v1948)) (Φ₂ (Proc.devRef .tc Cert.ReferenceIdeal.main_v1960)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 38) rfl) :) e2 e5 x0
  have e7 : @Eq ((⟨Cert.KernelIdeal.S2x1, .i32⟩ : BufTy).Contents (Elt F)) (Φ₁ (Proc.devRef .tc Cert.KernelIdeal.main_v1949)) (Φ₂ (Proc.devRef .tc Cert.ReferenceIdeal.main_v1961)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 39) rfl) :) e6
  have e8 : @Eq ((⟨Cert.KernelIdeal.S131072x2, .f32⟩ : BufTy).Contents (Elt F)) (Φ₁ (Proc.devRef .tc Cert.KernelIdeal.main_v1950)) (Φ₂ (Proc.devRef .tc Cert.ReferenceIdeal.main_v1962)) := by rw [eq2 (at_ fa0 (i := 120) rfl), eq2 (at_ fb0 (i := 40) rfl), x1, e7] <;> rfl
  have e9 : @Eq ((⟨Cert.KernelIdeal.S131072x1, .f32⟩ : BufTy).Contents (Elt F)) (Φ₁ (Proc.devRef .tc Cert.KernelIdeal.main_v1951)) (Φ₂ (Proc.devRef .tc Cert.ReferenceIdeal.main_v1963)) := by rw [eq1 (at_ fa0 (i := 121) rfl), eq1 (at_ fb0 (i := 41) rfl), e8] <;> rfl
  have e10 : @Eq ((⟨Cert.KernelIdeal.S131072, .f32⟩ : BufTy).Contents (Elt F)) (Φ₁ (Proc.devRef .tc Cert.KernelIdeal.main_v1952)) (Φ₂ (Proc.devRef .tc Cert.ReferenceIdeal.main_v1964)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 42) rfl) :) e9
  have e11 : @Eq ((⟨Cert.KernelIdeal.S_, .f32⟩ : BufTy).Contents (Elt F)) (Φ₁ (Proc.devRef .tc Cert.KernelIdeal.main_cst_596)) (Φ₂ (Proc.devRef .tc Cert.ReferenceIdeal.main_cst_596)) := step0 (β := ((⟨Cert.KernelIdeal.S_, .f32⟩ : BufTy).Contents (Elt F))) (eq0 (at_ fa0 (i := 123) rfl) :) (eq0 (at_ fb0 (i := 43) rfl) :)
  have e12 : @Eq ((⟨Cert.KernelIdeal.S131072, .f32⟩ : BufTy).Contents (Elt F)) (Φ₁ (Proc.devRef .tc Cert.KernelIdeal.main_v1953)) (Φ₂ (Proc.devRef .tc Cert.ReferenceIdeal.main_v1965)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 44) rfl) :) e11
  have e13 : @Eq ((⟨Cert.KernelIdeal.S131072, .f32⟩ : BufTy).Contents (Elt F)) (Φ₁ (Proc.devRef .tc Cert.KernelIdeal.main_v1954)) (Φ₂ (Proc.devRef .tc Cert.ReferenceIdeal.main_v1966)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 45) rfl) :) e10 e12
  have e14 : @Eq ((⟨Cert.KernelIdeal.S_, .f32⟩ : BufTy).Contents (Elt F)) (Φ₁ (Proc.devRef .tc Cert.KernelIdeal.main_cst_597)) (Φ₂ (Proc.devRef .tc Cert.ReferenceIdeal.main_cst_597)) := step0 (β := ((⟨Cert.KernelIdeal.S_, .f32⟩ : BufTy).Contents (Elt F))) (eq0 (at_ fa0 (i := 126) rfl) :) (eq0 (at_ fb0 (i := 46) rfl) :)
  have e15 : @Eq ((⟨Cert.KernelIdeal.S131072, .f32⟩ : BufTy).Contents (Elt F)) (Φ₁ (Proc.devRef .tc Cert.KernelIdeal.main_v1955)) (Φ₂ (Proc.devRef .tc Cert.ReferenceIdeal.main_v1967)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 47) rfl) :) e14
  have e16 : @Eq ((⟨Cert.KernelIdeal.S131072, .f32⟩ : BufTy).Contents (Elt F)) (Φ₁ (Proc.devRef .tc Cert.KernelIdeal.main_v1956)) (Φ₂ (Proc.devRef .tc Cert.ReferenceIdeal.main_v1968)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 48) rfl) :) e13 e15
  have e17 : @Eq ((⟨Cert.KernelIdeal.S_, .f32⟩ : BufTy).Contents (Elt F)) (Φ₁ (Proc.devRef .tc Cert.KernelIdeal.main_cst_598)) (Φ₂ (Proc.devRef .tc Cert.ReferenceIdeal.main_cst_598)) := step0 (β := ((⟨Cert.KernelIdeal.S_, .f32⟩ : BufTy).Contents (Elt F))) (eq0 (at_ fa0 (i := 129) rfl) :) (eq0 (at_ fb0 (i := 49) rfl) :)
  have e18 : @Eq ((⟨Cert.KernelIdeal.S131072, .f32⟩ : BufTy).Contents (Elt F)) (Φ₁ (Proc.devRef .tc Cert.KernelIdeal.main_v1957)) (Φ₂ (Proc.devRef .tc Cert.ReferenceIdeal.main_v1969)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 50) rfl) :) e17
  have e19 : @Eq ((⟨Cert.KernelIdeal.S131072, .f32⟩ : BufTy).Contents (Elt F)) (Φ₁ (Proc.devRef .tc Cert.KernelIdeal.main_v1958)) (Φ₂ (Proc.devRef .tc Cert.ReferenceIdeal.main_v1970)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 51) rfl) :) e16 e18
  have e20 : @Eq ((⟨Cert.KernelIdeal.S131072x1, .f32⟩ : BufTy).Contents (Elt F)) (Φ₁ (Proc.devRef .tc Cert.KernelIdeal.main_v1959)) (Φ₂ (Proc.devRef .tc Cert.ReferenceIdeal.main_v1971)) := by rw [eq1 (at_ fa0 (i := 132) rfl), eq1 (at_ fb0 (i := 52) rfl), e8] <;> rfl
  have e21 : @Eq ((⟨Cert.KernelIdeal.S131072, .f32⟩ : BufTy).Contents (Elt F)) (Φ₁ (Proc.devRef .tc Cert.KernelIdeal.main_v1960)) (Φ₂ (Proc.devRef .tc Cert.ReferenceIdeal.main_v1972)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 53) rfl) :) e20
  have e22 : @Eq ((⟨Cert.KernelIdeal.S_, .f32⟩ : BufTy).Contents (Elt F)) (Φ₁ (Proc.devRef .tc Cert.KernelIdeal.main_cst_599)) (Φ₂ (Proc.devRef .tc Cert.ReferenceIdeal.main_cst_599)) := step0 (β := ((⟨Cert.KernelIdeal.S_, .f32⟩ : BufTy).Contents (Elt F))) (eq0 (at_ fa0 (i := 134) rfl) :) (eq0 (at_ fb0 (i := 54) rfl) :)
  have e23 : @Eq ((⟨Cert.KernelIdeal.S131072, .f32⟩ : BufTy).Contents (Elt F)) (Φ₁ (Proc.devRef .tc Cert.KernelIdeal.main_v1961)) (Φ₂ (Proc.devRef .tc Cert.ReferenceIdeal.main_v1973)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 55) rfl) :) e22
  have e24 : @Eq ((⟨Cert.KernelIdeal.S131072, .f32⟩ : BufTy).Contents (Elt F)) (Φ₁ (Proc.devRef .tc Cert.KernelIdeal.main_v1962)) (Φ₂ (Proc.devRef .tc Cert.ReferenceIdeal.main_v1974)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 56) rfl) :) e21 e23
  have e25 : @Eq ((⟨Cert.KernelIdeal.S_, .f32⟩ : BufTy).Contents (Elt F)) (Φ₁ (Proc.devRef .tc Cert.KernelIdeal.main_cst_600)) (Φ₂ (Proc.devRef .tc Cert.ReferenceIdeal.main_cst_600)) := step0 (β := ((⟨Cert.KernelIdeal.S_, .f32⟩ : BufTy).Contents (Elt F))) (eq0 (at_ fa0 (i := 137) rfl) :) (eq0 (at_ fb0 (i := 57) rfl) :)
  have e26 : @Eq ((⟨Cert.KernelIdeal.S131072, .f32⟩ : BufTy).Contents (Elt F)) (Φ₁ (Proc.devRef .tc Cert.KernelIdeal.main_v1963)) (Φ₂ (Proc.devRef .tc Cert.ReferenceIdeal.main_v1975)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 58) rfl) :) e25
  have e27 : @Eq ((⟨Cert.KernelIdeal.S131072, .f32⟩ : BufTy).Contents (Elt F)) (Φ₁ (Proc.devRef .tc Cert.KernelIdeal.main_v1964)) (Φ₂ (Proc.devRef .tc Cert.ReferenceIdeal.main_v1976)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 59) rfl) :) e24 e26
  have e28 : @Eq ((⟨Cert.KernelIdeal.S_, .f32⟩ : BufTy).Contents (Elt F)) (Φ₁ (Proc.devRef .tc Cert.KernelIdeal.main_cst_601)) (Φ₂ (Proc.devRef .tc Cert.ReferenceIdeal.main_cst_601)) := step0 (β := ((⟨Cert.KernelIdeal.S_, .f32⟩ : BufTy).Contents (Elt F))) (eq0 (at_ fa0 (i := 140) rfl) :) (eq0 (at_ fb1 (i := 0) rfl) :)
  have e29 : @Eq ((⟨Cert.KernelIdeal.S131072, .f32⟩ : BufTy).Contents (Elt F)) (Φ₁ (Proc.devRef .tc Cert.KernelIdeal.main_v1965)) (Φ₂ (Proc.devRef .tc Cert.ReferenceIdeal.main_v1977)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 1) rfl) :) e28
  have e30 : @Eq ((⟨Cert.KernelIdeal.S131072, .f32⟩ : BufTy).Contents (Elt F)) (Φ₁ (Proc.devRef .tc Cert.KernelIdeal.main_v1966)) (Φ₂ (Proc.devRef .tc Cert.ReferenceIdeal.main_v1978)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 2) rfl) :) e27 e29
  have e31 : @Eq ((⟨Cert.KernelIdeal.S131072, .f32⟩ : BufTy).Contents (Elt F)) (Φ₁ (Proc.devRef .tc Cert.KernelIdeal.main_v1967)) (Φ₂ (Proc.devRef .tc Cert.ReferenceIdeal.main_v1979)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 3) rfl) :) e19
  have e32 : @Eq ((⟨Cert.KernelIdeal.S131072, .f32⟩ : BufTy).Contents (Elt F)) (Φ₁ (Proc.devRef .tc Cert.KernelIdeal.main_v1968)) (Φ₂ (Proc.devRef .tc Cert.ReferenceIdeal.main_v1980)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 4) rfl) :) e30
  have e33 : @Eq ((⟨Cert.KernelIdeal.S131072, .f32⟩ : BufTy).Contents (Elt F)) (Φ₁ (Proc.devRef .tc Cert.KernelIdeal.main_v1969)) (Φ₂ (Proc.devRef .tc Cert.ReferenceIdeal.main_v1981)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 5) rfl) :) e19 e31
  have e34 : @Eq ((⟨Cert.KernelIdeal.S131072, .f32⟩ : BufTy).Contents (Elt F)) (Φ₁ (Proc.devRef .tc Cert.KernelIdeal.main_v1970)) (Φ₂ (Proc.devRef .tc Cert.ReferenceIdeal.main_v1982)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 6) rfl) :) e30 e32
  have e35 : @Eq ((⟨Cert.KernelIdeal.S131072, .i32⟩ : BufTy).Contents (Elt F)) (Φ₁ (Proc.devRef .tc Cert.KernelIdeal.main_v1971)) (Φ₂ (Proc.devRef .tc Cert.ReferenceIdeal.main_v1983)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 7) rfl) :) e31
  have e36 : @Eq ((⟨Cert.KernelIdeal.S_, .i32⟩ : BufTy).Contents (Elt F)) (Φ₁ (Proc.devRef .tc Cert.KernelIdeal.main_c_602)) (Φ₂ (Proc.devRef .tc Cert.ReferenceIdeal.main_c_602)) := step0 (β := ((⟨Cert.KernelIdeal.S_, .i32⟩ : BufTy).Contents (Elt F))) (eq0 (at_ fa0 (i := 148) rfl) :) (eq0 (at_ fb1 (i := 8) rfl) :)
  have e37 : @Eq ((⟨Cert.KernelIdeal.S_, .i32⟩ : BufTy).Contents (Elt F)) (Φ₁ (Proc.devRef .tc Cert.KernelIdeal.main_c_603)) (Φ₂ (Proc.devRef .tc Cert.ReferenceIdeal.main_c_603)) := step0 (β := ((⟨Cert.KernelIdeal.S_, .i32⟩ : BufTy).Contents (Elt F))) (eq0 (at_ fa0 (i := 149) rfl) :) (eq0 (at_ fb1 (i := 9) rfl) :)
  have e38 : @Eq ((⟨Cert.KernelIdeal.S_, .i32⟩ : BufTy).Contents (Elt F)) (Φ₁ (Proc.devRef .tc Cert.KernelIdeal.main_call60_v0)) (Φ₂ (Proc.devRef .tc Cert.ReferenceIdeal.main_call60_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 10) rfl) :) e36
  have e39 : @Eq ((⟨Cert.KernelIdeal.S131072, .i32⟩ : BufTy).Contents (Elt F)) (Φ₁ (Proc.devRef .tc Cert.KernelIdeal.main_call60_v1)) (Φ₂ (Proc.devRef .tc Cert.ReferenceIdeal.main_call60_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 11) rfl) :) e38
  have e40 : @Eq ((⟨Cert.KernelIdeal.S131072, .i32⟩ : BufTy).Contents (Elt F)) (Φ₁ (Proc.devRef .tc Cert.KernelIdeal.main_call60_v2)) (Φ₂ (Proc.devRef .tc Cert.ReferenceIdeal.main_call60_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 12) rfl) :) e39 e35
  have e41 : @Eq ((⟨Cert.KernelIdeal.S_, .i32⟩ : BufTy).Contents (Elt F)) (Φ₁ (Proc.devRef .tc Cert.KernelIdeal.main_call60_v3)) (Φ₂ (Proc.devRef .tc Cert.ReferenceIdeal.main_call60_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 13) rfl) :) e37
  have e42 : @Eq ((⟨Cert.KernelIdeal.S131072, .i32⟩ : BufTy).Contents (Elt F)) (Φ₁ (Proc.devRef .tc Cert.KernelIdeal.main_call60_v4)) (Φ₂ (Proc.devRef .tc Cert.ReferenceIdeal.main_call60_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 14) rfl) :) e41
  have e43 : @Eq ((⟨Cert.KernelIdeal.S131072, .i32⟩ : BufTy).Contents (Elt F)) (Φ₁ (Proc.devRef .tc Cert.KernelIdeal.main_v1972)) (Φ₂ (Proc.devRef .tc Cert.ReferenceIdeal.main_v1984)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 15) rfl) :) e42 e40
  have e44 : @Eq ((⟨Cert.KernelIdeal.S_, .i32⟩ : BufTy).Contents (Elt F)) (Φ₁ (Proc.devRef .tc Cert.KernelIdeal.main_c_604)) (Φ₂ (Proc.devRef .tc Cert.ReferenceIdeal.main_c_604)) := step0 (β := ((⟨Cert.KernelIdeal.S_, .i32⟩ : BufTy).Contents (Elt F))) (eq0 (at_ fa2 (i := 0) rfl) :) (eq0 (at_ fb1 (i := 16) rfl) :)
  have e45 : @Eq ((⟨Cert.KernelIdeal.S131072, .i32⟩ : BufTy).Contents (Elt F)) (Φ₁ (Proc.devRef .tc Cert.KernelIdeal.main_v1973)) (Φ₂ (Proc.devRef .tc Cert.ReferenceIdeal.main_v1985)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 17) rfl) :) e44
  have e46 : @Eq ((⟨Cert.KernelIdeal.S131072, .i32⟩ : BufTy).Contents (Elt F)) (Φ₁ (Proc.devRef .tc Cert.KernelIdeal.main_v1974)) (Φ₂ (Proc.devRef .tc Cert.ReferenceIdeal.main_v1986)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 18) rfl) :) e43 e45
  have e47 : @Eq ((⟨Cert.KernelIdeal.S_, .i32⟩ : BufTy).Contents (Elt F)) (Φ₁ (Proc.devRef .tc Cert.KernelIdeal.main_c_605)) (Φ₂ (Proc.devRef .tc Cert.ReferenceIdeal.main_c_605)) := step0 (β := ((⟨Cert.KernelIdeal.S_, .i32⟩ : BufTy).Contents (Elt F))) (eq0 (at_ fa2 (i := 3) rfl) :) (eq0 (at_ fb1 (i := 19) rfl) :)
  have e48 : @Eq ((⟨Cert.KernelIdeal.S_, .i32⟩ : BufTy).Contents (Elt F)) (Φ₁ (Proc.devRef .tc Cert.KernelIdeal.main_c_606)) (Φ₂ (Proc.devRef .tc Cert.ReferenceIdeal.main_c_606)) := step0 (β := ((⟨Cert.KernelIdeal.S_, .i32⟩ : BufTy).Contents (Elt F))) (eq0 (at_ fa2 (i := 4) rfl) :) (eq0 (at_ fb1 (i := 20) rfl) :)
  have e49 : @Eq ((⟨Cert.KernelIdeal.S_, .i32⟩ : BufTy).Contents (Elt F)) (Φ₁ (Proc.devRef .tc Cert.KernelIdeal.main_call61_v0)) (Φ₂ (Proc.devRef .tc Cert.ReferenceIdeal.main_call61_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 21) rfl) :) e47
  have e50 : @Eq ((⟨Cert.KernelIdeal.S131072, .i32⟩ : BufTy).Contents (Elt F)) (Φ₁ (Proc.devRef .tc Cert.KernelIdeal.main_call61_v1)) (Φ₂ (Proc.devRef .tc Cert.ReferenceIdeal.main_call61_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 22) rfl) :) e49
  have e51 : @Eq ((⟨Cert.KernelIdeal.S131072, .i32⟩ : BufTy).Contents (Elt F)) (Φ₁ (Proc.devRef .tc Cert.KernelIdeal.main_call61_v2)) (Φ₂ (Proc.devRef .tc Cert.ReferenceIdeal.main_call61_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 23) rfl) :) e50 e46
  have e52 : @Eq ((⟨Cert.KernelIdeal.S_, .i32⟩ : BufTy).Contents (Elt F)) (Φ₁ (Proc.devRef .tc Cert.KernelIdeal.main_call61_v3)) (Φ₂ (Proc.devRef .tc Cert.ReferenceIdeal.main_call61_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 24) rfl) :) e48
  have e53 : @Eq ((⟨Cert.KernelIdeal.S131072, .i32⟩ : BufTy).Contents (Elt F)) (Φ₁ (Proc.devRef .tc Cert.KernelIdeal.main_call61_v4)) (Φ₂ (Proc.devRef .tc Cert.ReferenceIdeal.main_call61_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 25) rfl) :) e52
  have e54 : @Eq ((⟨Cert.KernelIdeal.S131072, .i32⟩ : BufTy).Contents (Elt F)) (Φ₁ (Proc.devRef .tc Cert.KernelIdeal.main_v1975)) (Φ₂ (Proc.devRef .tc Cert.ReferenceIdeal.main_v1987)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 26) rfl) :) e53 e51
  have e55 : @Eq ((⟨Cert.KernelIdeal.S131072, .i32⟩ : BufTy).Contents (Elt F)) (Φ₁ (Proc.devRef .tc Cert.KernelIdeal.main_v1976)) (Φ₂ (Proc.devRef .tc Cert.ReferenceIdeal.main_v1988)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 27) rfl) :) e32
  have e56 : @Eq ((⟨Cert.KernelIdeal.S_, .i32⟩ : BufTy).Contents (Elt F)) (Φ₁ (Proc.devRef .tc Cert.KernelIdeal.main_c_607)) (Φ₂ (Proc.devRef .tc Cert.ReferenceIdeal.main_c_607)) := step0 (β := ((⟨Cert.KernelIdeal.S_, .i32⟩ : BufTy).Contents (Elt F))) (eq0 (at_ fa4 (i := 1) rfl) :) (eq0 (at_ fb1 (i := 28) rfl) :)
  have e57 : @Eq ((⟨Cert.KernelIdeal.S_, .i32⟩ : BufTy).Contents (Elt F)) (Φ₁ (Proc.devRef .tc Cert.KernelIdeal.main_c_608)) (Φ₂ (Proc.devRef .tc Cert.ReferenceIdeal.main_c_608)) := step0 (β := ((⟨Cert.KernelIdeal.S_, .i32⟩ : BufTy).Contents (Elt F))) (eq0 (at_ fa4 (i := 2) rfl) :) (eq0 (at_ fb1 (i := 29) rfl) :)
  have e58 : @Eq ((⟨Cert.KernelIdeal.S_, .i32⟩ : BufTy).Contents (Elt F)) (Φ₁ (Proc.devRef .tc Cert.KernelIdeal.main_call62_v0)) (Φ₂ (Proc.devRef .tc Cert.ReferenceIdeal.main_call62_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 30) rfl) :) e56
  have e59 : @Eq ((⟨Cert.KernelIdeal.S131072, .i32⟩ : BufTy).Contents (Elt F)) (Φ₁ (Proc.devRef .tc Cert.KernelIdeal.main_call62_v1)) (Φ₂ (Proc.devRef .tc Cert.ReferenceIdeal.main_call62_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 31) rfl) :) e58
  have e60 : @Eq ((⟨Cert.KernelIdeal.S131072, .i32⟩ : BufTy).Contents (Elt F)) (Φ₁ (Proc.devRef .tc Cert.KernelIdeal.main_call62_v2)) (Φ₂ (Proc.devRef .tc Cert.ReferenceIdeal.main_call62_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 32) rfl) :) e59 e55
  have e61 : @Eq ((⟨Cert.KernelIdeal.S_, .i32⟩ : BufTy).Contents (Elt F)) (Φ₁ (Proc.devRef .tc Cert.KernelIdeal.main_call62_v3)) (Φ₂ (Proc.devRef .tc Cert.ReferenceIdeal.main_call62_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 33) rfl) :) e57
  have e62 : @Eq ((⟨Cert.KernelIdeal.S131072, .i32⟩ : BufTy).Contents (Elt F)) (Φ₁ (Proc.devRef .tc Cert.KernelIdeal.main_call62_v4)) (Φ₂ (Proc.devRef .tc Cert.ReferenceIdeal.main_call62_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 34) rfl) :) e61
  have e63 : @Eq ((⟨Cert.KernelIdeal.S131072, .i32⟩ : BufTy).Contents (Elt F)) (Φ₁ (Proc.devRef .tc Cert.KernelIdeal.main_v1977)) (Φ₂ (Proc.devRef .tc Cert.ReferenceIdeal.main_v1989)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 35) rfl) :) e62 e60
  have e64 : @Eq ((⟨Cert.KernelIdeal.S_, .i32⟩ : BufTy).Contents (Elt F)) (Φ₁ (Proc.devRef .tc Cert.KernelIdeal.main_c_609)) (Φ₂ (Proc.devRef .tc Cert.ReferenceIdeal.main_c_609)) := step0 (β := ((⟨Cert.KernelIdeal.S_, .i32⟩ : BufTy).Contents (Elt F))) (eq0 (at_ fa6 (i := 0) rfl) :) (eq0 (at_ fb1 (i := 36) rfl) :)
  have e65 : @Eq ((⟨Cert.KernelIdeal.S131072, .i32⟩ : BufTy).Contents (Elt F)) (Φ₁ (Proc.devRef .tc Cert.KernelIdeal.main_v1978)) (Φ₂ (Proc.devRef .tc Cert.ReferenceIdeal.main_v1990)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 37) rfl) :) e64
  have e66 : @Eq ((⟨Cert.KernelIdeal.S131072, .i32⟩ : BufTy).Contents (Elt F)) (Φ₁ (Proc.devRef .tc Cert.KernelIdeal.main_v1979)) (Φ₂ (Proc.devRef .tc Cert.ReferenceIdeal.main_v1991)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 38) rfl) :) e63 e65
  have e67 : @Eq ((⟨Cert.KernelIdeal.S_, .i32⟩ : BufTy).Contents (Elt F)) (Φ₁ (Proc.devRef .tc Cert.KernelIdeal.main_c_610)) (Φ₂ (Proc.devRef .tc Cert.ReferenceIdeal.main_c_610)) := step0 (β := ((⟨Cert.KernelIdeal.S_, .i32⟩ : BufTy).Contents (Elt F))) (eq0 (at_ fa6 (i := 3) rfl) :) (eq0 (at_ fb1 (i := 39) rfl) :)
  have e68 : @Eq ((⟨Cert.KernelIdeal.S_, .i32⟩ : BufTy).Contents (Elt F)) (Φ₁ (Proc.devRef .tc Cert.KernelIdeal.main_c_611)) (Φ₂ (Proc.devRef .tc Cert.ReferenceIdeal.main_c_611)) := step0 (β := ((⟨Cert.KernelIdeal.S_, .i32⟩ : BufTy).Contents (Elt F))) (eq0 (at_ fa6 (i := 4) rfl) :) (eq0 (at_ fb1 (i := 40) rfl) :)
  have e69 : @Eq ((⟨Cert.KernelIdeal.S_, .i32⟩ : BufTy).Contents (Elt F)) (Φ₁ (Proc.devRef .tc Cert.KernelIdeal.main_call63_v0)) (Φ₂ (Proc.devRef .tc Cert.ReferenceIdeal.main_call63_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 41) rfl) :) e67
  have e70 : @Eq ((⟨Cert.KernelIdeal.S131072, .i32⟩ : BufTy).Contents (Elt F)) (Φ₁ (Proc.devRef .tc Cert.KernelIdeal.main_call63_v1)) (Φ₂ (Proc.devRef .tc Cert.ReferenceIdeal.main_call63_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 42) rfl) :) e69
  have e71 : @Eq ((⟨Cert.KernelIdeal.S131072, .i32⟩ : BufTy).Contents (Elt F)) (Φ₁ (Proc.devRef .tc Cert.KernelIdeal.main_call63_v2)) (Φ₂ (Proc.devRef .tc Cert.ReferenceIdeal.main_call63_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 43) rfl) :) e70 e66
  have e72 : @Eq ((⟨Cert.KernelIdeal.S_, .i32⟩ : BufTy).Contents (Elt F)) (Φ₁ (Proc.devRef .tc Cert.KernelIdeal.main_call63_v3)) (Φ₂ (Proc.devRef .tc Cert.ReferenceIdeal.main_call63_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 44) rfl) :) e68
  have e73 : @Eq ((⟨Cert.KernelIdeal.S131072, .i32⟩ : BufTy).Contents (Elt F)) (Φ₁ (Proc.devRef .tc Cert.KernelIdeal.main_call63_v4)) (Φ₂ (Proc.devRef .tc Cert.ReferenceIdeal.main_call63_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 45) rfl) :) e72
  have e74 : @Eq ((⟨Cert.KernelIdeal.S131072, .i32⟩ : BufTy).Contents (Elt F)) (Φ₁ (Proc.devRef .tc Cert.KernelIdeal.main_v1980)) (Φ₂ (Proc.devRef .tc Cert.ReferenceIdeal.main_v1992)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 46) rfl) :) e73 e71
  have e75 : @Eq ((⟨Cert.KernelIdeal.S_, .i32⟩ : BufTy).Contents (Elt F)) (Φ₁ (Proc.devRef .tc Cert.KernelIdeal.main_c_612)) (Φ₂ (Proc.devRef .tc Cert.ReferenceIdeal.main_c_612)) := step0 (β := ((⟨Cert.KernelIdeal.S_, .i32⟩ : BufTy).Contents (Elt F))) (eq0 (at_ fa8 (i := 0) rfl) :) (eq0 (at_ fb1 (i := 47) rfl) :)
  have e76 : @Eq ((⟨Cert.KernelIdeal.S131072, .i32⟩ : BufTy).Contents (Elt F)) (Φ₁ (Proc.devRef .tc Cert.KernelIdeal.main_v1981)) (Φ₂ (Proc.devRef .tc Cert.ReferenceIdeal.main_v1993)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 48) rfl) :) e75
  have e77 : @Eq ((⟨Cert.KernelIdeal.S131072, .i1⟩ : BufTy).Contents (Elt F)) (Φ₁ (Proc.devRef .tc Cert.KernelIdeal.main_v1982)) (Φ₂ (Proc.devRef .tc Cert.ReferenceIdeal.main_v1994)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 49) rfl) :) e63 e76
  have e78 : @Eq ((⟨Cert.KernelIdeal.S_, .i32⟩ : BufTy).Contents (Elt F)) (Φ₁ (Proc.devRef .tc Cert.KernelIdeal.main_c_613)) (Φ₂ (Proc.devRef .tc Cert.ReferenceIdeal.main_c_613)) := step0 (β := ((⟨Cert.KernelIdeal.S_, .i32⟩ : BufTy).Contents (Elt F))) (eq0 (at_ fa8 (i := 3) rfl) :) (eq0 (at_ fb1 (i := 50) rfl) :)
  have e79 : @Eq ((⟨Cert.KernelIdeal.S131072, .i32⟩ : BufTy).Contents (Elt F)) (Φ₁ (Proc.devRef .tc Cert.KernelIdeal.main_v1983)) (Φ₂ (Proc.devRef .tc Cert.ReferenceIdeal.main_v1995)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 51) rfl) :) e78
  have e80 : @Eq ((⟨Cert.KernelIdeal.S131072, .i32⟩ : BufTy).Contents (Elt F)) (Φ₁ (Proc.devRef .tc Cert.KernelIdeal.main_v1984)) (Φ₂ (Proc.devRef .tc Cert.ReferenceIdeal.main_v1996)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 52) rfl) :) e63 e79
  have e81 : @Eq ((⟨Cert.KernelIdeal.S131072, .i32⟩ : BufTy).Contents (Elt F)) (Φ₁ (Proc.devRef .tc Cert.KernelIdeal.main_v1985)) (Φ₂ (Proc.devRef .tc Cert.ReferenceIdeal.main_v1997)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 53) rfl) :) e77 e80 e63
  have e82 : @Eq ((⟨Cert.KernelIdeal.S_, .i32⟩ : BufTy).Contents (Elt F)) (Φ₁ (Proc.devRef .tc Cert.KernelIdeal.main_c_614)) (Φ₂ (Proc.devRef .tc Cert.ReferenceIdeal.main_c_614)) := step0 (β := ((⟨Cert.KernelIdeal.S_, .i32⟩ : BufTy).Contents (Elt F))) (eq0 (at_ fa8 (i := 7) rfl) :) (eq0 (at_ fb1 (i := 54) rfl) :)
  have e83 : @Eq ((⟨Cert.KernelIdeal.S131072, .i32⟩ : BufTy).Contents (Elt F)) (Φ₁ (Proc.devRef .tc Cert.KernelIdeal.main_v1986)) (Φ₂ (Proc.devRef .tc Cert.ReferenceIdeal.main_v1998)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 55) rfl) :) e82
  have e84 : @Eq ((⟨Cert.KernelIdeal.S131072, .i1⟩ : BufTy).Contents (Elt F)) (Φ₁ (Proc.devRef .tc Cert.KernelIdeal.main_v1987)) (Φ₂ (Proc.devRef .tc Cert.ReferenceIdeal.main_v1999)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 56) rfl) :) e43 e83
  have e85 : @Eq ((⟨Cert.KernelIdeal.S_, .i32⟩ : BufTy).Contents (Elt F)) (Φ₁ (Proc.devRef .tc Cert.KernelIdeal.main_c_615)) (Φ₂ (Proc.devRef .tc Cert.ReferenceIdeal.main_c_615)) := step0 (β := ((⟨Cert.KernelIdeal.S_, .i32⟩ : BufTy).Contents (Elt F))) (eq0 (at_ fa8 (i := 10) rfl) :) (eq0 (at_ fb1 (i := 57) rfl) :)
  have e86 : @Eq ((⟨Cert.KernelIdeal.S131072, .i32⟩ : BufTy).Contents (Elt F)) (Φ₁ (Proc.devRef .tc Cert.KernelIdeal.main_v1988)) (Φ₂ (Proc.devRef .tc Cert.ReferenceIdeal.main_v2000)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 58) rfl) :) e85
  have e87 : @Eq ((⟨Cert.KernelIdeal.S131072, .i32⟩ : BufTy).Contents (Elt F)) (Φ₁ (Proc.devRef .tc Cert.KernelIdeal.main_v1989)) (Φ₂ (Proc.devRef .tc Cert.ReferenceIdeal.main_v2001)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 59) rfl) :) e43 e86
  have e88 : @Eq ((⟨Cert.KernelIdeal.S131072, .i32⟩ : BufTy).Contents (Elt F)) (Φ₁ (Proc.devRef .tc Cert.KernelIdeal.main_v1990)) (Φ₂ (Proc.devRef .tc Cert.ReferenceIdeal.main_v2002)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 60) rfl) :) e84 e87 e43
  have e89 : @Eq ((⟨Cert.KernelIdeal.S131072x1, .i32⟩ : BufTy).Contents (Elt F)) (Φ₁ (Proc.devRef .tc Cert.KernelIdeal.main_v1991)) (Φ₂ (Proc.devRef .tc Cert.ReferenceIdeal.main_v2003)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 61) rfl) :) e81
  have e90 : @Eq ((⟨Cert.KernelIdeal.S131072x1, .i32⟩ : BufTy).Contents (Elt F)) (Φ₁ (Proc.devRef .tc Cert.KernelIdeal.main_v1992)) (Φ₂ (Proc.devRef .tc Cert.ReferenceIdeal.main_v2004)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 62) rfl) :) e88
  have e91 : @Eq ((⟨Cert.KernelIdeal.S131072x2, .i32⟩ : BufTy).Contents (Elt F)) (Φ₁ (Proc.devRef .tc Cert.KernelIdeal.main_v1993)) (Φ₂ (Proc.devRef .tc Cert.ReferenceIdeal.main_v2005)) := by rw [eq2 (at_ fa8 (i := 16) rfl), eq2 (at_ fb1 (i := 63) rfl), e89, e90] <;> rfl
  have e92 : @Eq ((⟨Cert.KernelIdeal.S32x131072, .f32⟩ : BufTy).Contents (Elt F)) (Φ₁ (Proc.devRef .tc Cert.KernelIdeal.main_v1994)) (Φ₂ (Proc.devRef .tc Cert.ReferenceIdeal.main_v2006)) := by rw [eq2 (at_ fa8 (i := 17) rfl), eq2 (at_ fb1 (i := 64) rfl), x2, e91] <;> rfl
  have e93 : @Eq ((⟨Cert.KernelIdeal.S_, .i32⟩ : BufTy).Contents (Elt F)) (Φ₁ (Proc.devRef .tc Cert.KernelIdeal.main_c_616)) (Φ₂ (Proc.devRef .tc Cert.ReferenceIdeal.main_c_616)) := step0 (β := ((⟨Cert.KernelIdeal.S_, .i32⟩ : BufTy).Contents (Elt F))) (eq0 (at_ fa8 (i := 18) rfl) :) (eq0 (at_ fb1 (i := 65) rfl) :)
  have e94 : @Eq ((⟨Cert.KernelIdeal.S131072, .i32⟩ : BufTy).Contents (Elt F)) (Φ₁ (Proc.devRef .tc Cert.KernelIdeal.main_v1995)) (Φ₂ (Proc.devRef .tc Cert.ReferenceIdeal.main_v2007)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 66) rfl) :) e93
  have e95 : @Eq ((⟨Cert.KernelIdeal.S131072, .i1⟩ : BufTy).Contents (Elt F)) (Φ₁ (Proc.devRef .tc Cert.KernelIdeal.main_v1996)) (Φ₂ (Proc.devRef .tc Cert.ReferenceIdeal.main_v2008)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 67) rfl) :) e63 e94
  have e96 : @Eq ((⟨Cert.KernelIdeal.S_, .i32⟩ : BufTy).Contents (Elt F)) (Φ₁ (Proc.devRef .tc Cert.KernelIdeal.main_c_617)) (Φ₂ (Proc.devRef .tc Cert.ReferenceIdeal.main_c_617)) := step0 (β := ((⟨Cert.KernelIdeal.S_, .i32⟩ : BufTy).Contents (Elt F))) (eq0 (at_ fa8 (i := 21) rfl) :) (eq0 (at_ fb1 (i := 68) rfl) :)
  have e97 : @Eq ((⟨Cert.KernelIdeal.S131072, .i32⟩ : BufTy).Contents (Elt F)) (Φ₁ (Proc.devRef .tc Cert.KernelIdeal.main_v1997)) (Φ₂ (Proc.devRef .tc Cert.ReferenceIdeal.main_v2009)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 69) rfl) :) e96
  have e98 : @Eq ((⟨Cert.KernelIdeal.S131072, .i32⟩ : BufTy).Contents (Elt F)) (Φ₁ (Proc.devRef .tc Cert.KernelIdeal.main_v1998)) (Φ₂ (Proc.devRef .tc Cert.ReferenceIdeal.main_v2010)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 70) rfl) :) e63 e97
  have e99 : @Eq ((⟨Cert.KernelIdeal.S131072, .i32⟩ : BufTy).Contents (Elt F)) (Φ₁ (Proc.devRef .tc Cert.KernelIdeal.main_v1999)) (Φ₂ (Proc.devRef .tc Cert.ReferenceIdeal.main_v2011)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 71) rfl) :) e95 e98 e63
  have e100 : @Eq ((⟨Cert.KernelIdeal.S_, .i32⟩ : BufTy).Contents (Elt F)) (Φ₁ (Proc.devRef .tc Cert.KernelIdeal.main_c_618)) (Φ₂ (Proc.devRef .tc Cert.ReferenceIdeal.main_c_618)) := step0 (β := ((⟨Cert.KernelIdeal.S_, .i32⟩ : BufTy).Contents (Elt F))) (eq0 (at_ fa8 (i := 25) rfl) :) (eq0 (at_ fb1 (i := 72) rfl) :)
  have e101 : @Eq ((⟨Cert.KernelIdeal.S131072, .i32⟩ : BufTy).Contents (Elt F)) (Φ₁ (Proc.devRef .tc Cert.KernelIdeal.main_v2000)) (Φ₂ (Proc.devRef .tc Cert.ReferenceIdeal.main_v2012)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 73) rfl) :) e100
  have e102 : @Eq ((⟨Cert.KernelIdeal.S131072, .i1⟩ : BufTy).Contents (Elt F)) (Φ₁ (Proc.devRef .tc Cert.KernelIdeal.main_v2001)) (Φ₂ (Proc.devRef .tc Cert.ReferenceIdeal.main_v2013)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 74) rfl) :) e54 e101
  have e103 : @Eq ((⟨Cert.KernelIdeal.S_, .i32⟩ : BufTy).Contents (Elt F)) (Φ₁ (Proc.devRef .tc Cert.KernelIdeal.main_c_619)) (Φ₂ (Proc.devRef .tc Cert.ReferenceIdeal.main_c_619)) := step0 (β := ((⟨Cert.KernelIdeal.S_, .i32⟩ : BufTy).Contents (Elt F))) (eq0 (at_ fa8 (i := 28) rfl) :) (eq0 (at_ fb1 (i := 75) rfl) :)
  have e104 : @Eq ((⟨Cert.KernelIdeal.S131072, .i32⟩ : BufTy).Contents (Elt F)) (Φ₁ (Proc.devRef .tc Cert.KernelIdeal.main_v2002)) (Φ₂ (Proc.devRef .tc Cert.ReferenceIdeal.main_v2014)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 76) rfl) :) e103
  have e105 : @Eq ((⟨Cert.KernelIdeal.S131072, .i32⟩ : BufTy).Contents (Elt F)) (Φ₁ (Proc.devRef .tc Cert.KernelIdeal.main_v2003)) (Φ₂ (Proc.devRef .tc Cert.ReferenceIdeal.main_v2015)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 77) rfl) :) e54 e104
  have e106 : @Eq ((⟨Cert.KernelIdeal.S131072, .i32⟩ : BufTy).Contents (Elt F)) (Φ₁ (Proc.devRef .tc Cert.KernelIdeal.main_v2004)) (Φ₂ (Proc.devRef .tc Cert.ReferenceIdeal.main_v2016)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 78) rfl) :) e102 e105 e54
  have e107 : @Eq ((⟨Cert.KernelIdeal.S131072x1, .i32⟩ : BufTy).Contents (Elt F)) (Φ₁ (Proc.devRef .tc Cert.KernelIdeal.main_v2005)) (Φ₂ (Proc.devRef .tc Cert.ReferenceIdeal.main_v2017)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 79) rfl) :) e99
  have e108 : @Eq ((⟨Cert.KernelIdeal.S131072x1, .i32⟩ : BufTy).Contents (Elt F)) (Φ₁ (Proc.devRef .tc Cert.KernelIdeal.main_v2006)) (Φ₂ (Proc.devRef .tc Cert.ReferenceIdeal.main_v2018)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 0) rfl) :) e106
  have e109 : @Eq ((⟨Cert.KernelIdeal.S131072x2, .i32⟩ : BufTy).Contents (Elt F)) (Φ₁ (Proc.devRef .tc Cert.KernelIdeal.main_v2007)) (Φ₂ (Proc.devRef .tc Cert.ReferenceIdeal.main_v2019)) := by rw [eq2 (at_ fa8 (i := 34) rfl), eq2 (at_ fb2 (i := 1) rfl), e107, e108] <;> rfl
  have e110 : @Eq ((⟨Cert.KernelIdeal.S32x131072, .f32⟩ : BufTy).Contents (Elt F)) (Φ₁ (Proc.devRef .tc Cert.KernelIdeal.main_v2008)) (Φ₂ (Proc.devRef .tc Cert.ReferenceIdeal.main_v2020)) := by rw [eq2 (at_ fa8 (i := 35) rfl), eq2 (at_ fb2 (i := 2) rfl), x2, e109] <;> rfl
  have e111 : @Eq ((⟨Cert.KernelIdeal.S_, .i32⟩ : BufTy).Contents (Elt F)) (Φ₁ (Proc.devRef .tc Cert.KernelIdeal.main_c_620)) (Φ₂ (Proc.devRef .tc Cert.ReferenceIdeal.main_c_620)) := step0 (β := ((⟨Cert.KernelIdeal.S_, .i32⟩ : BufTy).Contents (Elt F))) (eq0 (at_ fa8 (i := 36) rfl) :) (eq0 (at_ fb2 (i := 3) rfl) :)
  have e112 : @Eq ((⟨Cert.KernelIdeal.S131072, .i32⟩ : BufTy).Contents (Elt F)) (Φ₁ (Proc.devRef .tc Cert.KernelIdeal.main_v2009)) (Φ₂ (Proc.devRef .tc Cert.ReferenceIdeal.main_v2021)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 4) rfl) :) e111
  have e113 : @Eq ((⟨Cert.KernelIdeal.S131072, .i1⟩ : BufTy).Contents (Elt F)) (Φ₁ (Proc.devRef .tc Cert.KernelIdeal.main_v2010)) (Φ₂ (Proc.devRef .tc Cert.ReferenceIdeal.main_v2022)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 5) rfl) :) e74 e112
  have e114 : @Eq ((⟨Cert.KernelIdeal.S_, .i32⟩ : BufTy).Contents (Elt F)) (Φ₁ (Proc.devRef .tc Cert.KernelIdeal.main_c_621)) (Φ₂ (Proc.devRef .tc Cert.ReferenceIdeal.main_c_621)) := step0 (β := ((⟨Cert.KernelIdeal.S_, .i32⟩ : BufTy).Contents (Elt F))) (eq0 (at_ fa8 (i := 39) rfl) :) (eq0 (at_ fb2 (i := 6) rfl) :)
  have e115 : @Eq ((⟨Cert.KernelIdeal.S131072, .i32⟩ : BufTy).Contents (Elt F)) (Φ₁ (Proc.devRef .tc Cert.KernelIdeal.main_v2011)) (Φ₂ (Proc.devRef .tc Cert.ReferenceIdeal.main_v2023)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 7) rfl) :) e114
  have e116 : @Eq ((⟨Cert.KernelIdeal.S131072, .i32⟩ : BufTy).Contents (Elt F)) (Φ₁ (Proc.devRef .tc Cert.KernelIdeal.main_v2012)) (Φ₂ (Proc.devRef .tc Cert.ReferenceIdeal.main_v2024)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 8) rfl) :) e74 e115
  have e117 : @Eq ((⟨Cert.KernelIdeal.S131072, .i32⟩ : BufTy).Contents (Elt F)) (Φ₁ (Proc.devRef .tc Cert.KernelIdeal.main_v2013)) (Φ₂ (Proc.devRef .tc Cert.ReferenceIdeal.main_v2025)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 9) rfl) :) e113 e116 e74
  have e118 : @Eq ((⟨Cert.KernelIdeal.S_, .i32⟩ : BufTy).Contents (Elt F)) (Φ₁ (Proc.devRef .tc Cert.KernelIdeal.main_c_622)) (Φ₂ (Proc.devRef .tc Cert.ReferenceIdeal.main_c_622)) := step0 (β := ((⟨Cert.KernelIdeal.S_, .i32⟩ : BufTy).Contents (Elt F))) (eq0 (at_ fa8 (i := 43) rfl) :) (eq0 (at_ fb2 (i := 10) rfl) :)
  have e119 : @Eq ((⟨Cert.KernelIdeal.S131072, .i32⟩ : BufTy).Contents (Elt F)) (Φ₁ (Proc.devRef .tc Cert.KernelIdeal.main_v2014)) (Φ₂ (Proc.devRef .tc Cert.ReferenceIdeal.main_v2026)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 11) rfl) :) e118
  have e120 : @Eq ((⟨Cert.KernelIdeal.S131072, .i1⟩ : BufTy).Contents (Elt F)) (Φ₁ (Proc.devRef .tc Cert.KernelIdeal.main_v2015)) (Φ₂ (Proc.devRef .tc Cert.ReferenceIdeal.main_v2027)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 12) rfl) :) e43 e119
  have e121 : @Eq ((⟨Cert.KernelIdeal.S_, .i32⟩ : BufTy).Contents (Elt F)) (Φ₁ (Proc.devRef .tc Cert.KernelIdeal.main_c_623)) (Φ₂ (Proc.devRef .tc Cert.ReferenceIdeal.main_c_623)) := step0 (β := ((⟨Cert.KernelIdeal.S_, .i32⟩ : BufTy).Contents (Elt F))) (eq0 (at_ fa8 (i := 46) rfl) :) (eq0 (at_ fb2 (i := 13) rfl) :)
  have e122 : @Eq ((⟨Cert.KernelIdeal.S131072, .i32⟩ : BufTy).Contents (Elt F)) (Φ₁ (Proc.devRef .tc Cert.KernelIdeal.main_v2016)) (Φ₂ (Proc.devRef .tc Cert.ReferenceIdeal.main_v2028)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 14) rfl) :) e121
  have e123 : @Eq ((⟨Cert.KernelIdeal.S131072, .i32⟩ : BufTy).Contents (Elt F)) (Φ₁ (Proc.devRef .tc Cert.KernelIdeal.main_v2017)) (Φ₂ (Proc.devRef .tc Cert.ReferenceIdeal.main_v2029)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 15) rfl) :) e43 e122
  have e124 : @Eq ((⟨Cert.KernelIdeal.S131072, .i32⟩ : BufTy).Contents (Elt F)) (Φ₁ (Proc.devRef .tc Cert.KernelIdeal.main_v2018)) (Φ₂ (Proc.devRef .tc Cert.ReferenceIdeal.main_v2030)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 16) rfl) :) e120 e123 e43
  have e125 : @Eq ((⟨Cert.KernelIdeal.S131072x1, .i32⟩ : BufTy).Contents (Elt F)) (Φ₁ (Proc.devRef .tc Cert.KernelIdeal.main_v2019)) (Φ₂ (Proc.devRef .tc Cert.ReferenceIdeal.main_v2031)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 17) rfl) :) e117
  have e126 : @Eq ((⟨Cert.KernelIdeal.S131072x1, .i32⟩ : BufTy).Contents (Elt F)) (Φ₁ (Proc.devRef .tc Cert.KernelIdeal.main_v2020)) (Φ₂ (Proc.devRef .tc Cert.ReferenceIdeal.main_v2032)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 18) rfl) :) e124
  have e127 : @Eq ((⟨Cert.KernelIdeal.S131072x2, .i32⟩ : BufTy).Contents (Elt F)) (Φ₁ (Proc.devRef .tc Cert.KernelIdeal.main_v2021)) (Φ₂ (Proc.devRef .tc Cert.ReferenceIdeal.main_v2033)) := by rw [eq2 (at_ fa8 (i := 52) rfl), eq2 (at_ fb2 (i := 19) rfl), e125, e126] <;> rfl
  have e128 : @Eq ((⟨Cert.KernelIdeal.S32x131072, .f32⟩ : BufTy).Contents (Elt F)) (Φ₁ (Proc.devRef .tc Cert.KernelIdeal.main_v2022)) (Φ₂ (Proc.devRef .tc Cert.ReferenceIdeal.main_v2034)) := by rw [eq2 (at_ fa8 (i := 53) rfl), eq2 (at_ fb2 (i := 20) rfl), x2, e127] <;> rfl
  have e129 : @Eq ((⟨Cert.KernelIdeal.S_, .i32⟩ : BufTy).Contents (Elt F)) (Φ₁ (Proc.devRef .tc Cert.KernelIdeal.main_c_624)) (Φ₂ (Proc.devRef .tc Cert.ReferenceIdeal.main_c_624)) := step0 (β := ((⟨Cert.KernelIdeal.S_, .i32⟩ : BufTy).Contents (Elt F))) (eq0 (at_ fa8 (i := 54) rfl) :) (eq0 (at_ fb2 (i := 21) rfl) :)
  have e130 : @Eq ((⟨Cert.KernelIdeal.S131072, .i32⟩ : BufTy).Contents (Elt F)) (Φ₁ (Proc.devRef .tc Cert.KernelIdeal.main_v2023)) (Φ₂ (Proc.devRef .tc Cert.ReferenceIdeal.main_v2035)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 22) rfl) :) e129
  have e131 : @Eq ((⟨Cert.KernelIdeal.S131072, .i1⟩ : BufTy).Contents (Elt F)) (Φ₁ (Proc.devRef .tc Cert.KernelIdeal.main_v2024)) (Φ₂ (Proc.devRef .tc Cert.ReferenceIdeal.main_v2036)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 23) rfl) :) e74 e130
  have e132 : @Eq ((⟨Cert.KernelIdeal.S_, .i32⟩ : BufTy).Contents (Elt F)) (Φ₁ (Proc.devRef .tc Cert.KernelIdeal.main_c_625)) (Φ₂ (Proc.devRef .tc Cert.ReferenceIdeal.main_c_625)) := step0 (β := ((⟨Cert.KernelIdeal.S_, .i32⟩ : BufTy).Contents (Elt F))) (eq0 (at_ fa8 (i := 57) rfl) :) (eq0 (at_ fb2 (i := 24) rfl) :)
  have e133 : @Eq ((⟨Cert.KernelIdeal.S131072, .i32⟩ : BufTy).Contents (Elt F)) (Φ₁ (Proc.devRef .tc Cert.KernelIdeal.main_v2025)) (Φ₂ (Proc.devRef .tc Cert.ReferenceIdeal.main_v2037)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 25) rfl) :) e132
  have e134 : @Eq ((⟨Cert.KernelIdeal.S131072, .i32⟩ : BufTy).Contents (Elt F)) (Φ₁ (Proc.devRef .tc Cert.KernelIdeal.main_v2026)) (Φ₂ (Proc.devRef .tc Cert.ReferenceIdeal.main_v2038)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 26) rfl) :) e74 e133
  have e135 : @Eq ((⟨Cert.KernelIdeal.S131072, .i32⟩ : BufTy).Contents (Elt F)) (Φ₁ (Proc.devRef .tc Cert.KernelIdeal.main_v2027)) (Φ₂ (Proc.devRef .tc Cert.ReferenceIdeal.main_v2039)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 27) rfl) :) e131 e134 e74
  have e136 : @Eq ((⟨Cert.KernelIdeal.S_, .i32⟩ : BufTy).Contents (Elt F)) (Φ₁ (Proc.devRef .tc Cert.KernelIdeal.main_c_626)) (Φ₂ (Proc.devRef .tc Cert.ReferenceIdeal.main_c_626)) := step0 (β := ((⟨Cert.KernelIdeal.S_, .i32⟩ : BufTy).Contents (Elt F))) (eq0 (at_ fa8 (i := 61) rfl) :) (eq0 (at_ fb2 (i := 28) rfl) :)
  have e137 : @Eq ((⟨Cert.KernelIdeal.S131072, .i32⟩ : BufTy).Contents (Elt F)) (Φ₁ (Proc.devRef .tc Cert.KernelIdeal.main_v2028)) (Φ₂ (Proc.devRef .tc Cert.ReferenceIdeal.main_v2040)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 29) rfl) :) e136
  have e138 : @Eq ((⟨Cert.KernelIdeal.S131072, .i1⟩ : BufTy).Contents (Elt F)) (Φ₁ (Proc.devRef .tc Cert.KernelIdeal.main_v2029)) (Φ₂ (Proc.devRef .tc Cert.ReferenceIdeal.main_v2041)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 30) rfl) :) e54 e137
  have e139 : @Eq ((⟨Cert.KernelIdeal.S_, .i32⟩ : BufTy).Contents (Elt F)) (Φ₁ (Proc.devRef .tc Cert.KernelIdeal.main_c_627)) (Φ₂ (Proc.devRef .tc Cert.ReferenceIdeal.main_c_627)) := step0 (β := ((⟨Cert.KernelIdeal.S_, .i32⟩ : BufTy).Contents (Elt F))) (eq0 (at_ fa8 (i := 64) rfl) :) (eq0 (at_ fb2 (i := 31) rfl) :)
  have e140 : @Eq ((⟨Cert.KernelIdeal.S131072, .i32⟩ : BufTy).Contents (Elt F)) (Φ₁ (Proc.devRef .tc Cert.KernelIdeal.main_v2030)) (Φ₂ (Proc.devRef .tc Cert.ReferenceIdeal.main_v2042)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 32) rfl) :) e139
  have e141 : @Eq ((⟨Cert.KernelIdeal.S131072, .i32⟩ : BufTy).Contents (Elt F)) (Φ₁ (Proc.devRef .tc Cert.KernelIdeal.main_v2031)) (Φ₂ (Proc.devRef .tc Cert.ReferenceIdeal.main_v2043)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 33) rfl) :) e54 e140
  have e142 : @Eq ((⟨Cert.KernelIdeal.S131072, .i32⟩ : BufTy).Contents (Elt F)) (Φ₁ (Proc.devRef .tc Cert.KernelIdeal.main_v2032)) (Φ₂ (Proc.devRef .tc Cert.ReferenceIdeal.main_v2044)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 34) rfl) :) e138 e141 e54
  have e143 : @Eq ((⟨Cert.KernelIdeal.S131072x1, .i32⟩ : BufTy).Contents (Elt F)) (Φ₁ (Proc.devRef .tc Cert.KernelIdeal.main_v2033)) (Φ₂ (Proc.devRef .tc Cert.ReferenceIdeal.main_v2045)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 35) rfl) :) e135
  have e144 : @Eq ((⟨Cert.KernelIdeal.S131072x1, .i32⟩ : BufTy).Contents (Elt F)) (Φ₁ (Proc.devRef .tc Cert.KernelIdeal.main_v2034)) (Φ₂ (Proc.devRef .tc Cert.ReferenceIdeal.main_v2046)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 36) rfl) :) e142
  have e145 : @Eq ((⟨Cert.KernelIdeal.S131072x2, .i32⟩ : BufTy).Contents (Elt F)) (Φ₁ (Proc.devRef .tc Cert.KernelIdeal.main_v2035)) (Φ₂ (Proc.devRef .tc Cert.ReferenceIdeal.main_v2047)) := by rw [eq2 (at_ fa8 (i := 70) rfl), eq2 (at_ fb2 (i := 37) rfl), e143, e144] <;> rfl
  have e146 : @Eq ((⟨Cert.KernelIdeal.S32x131072, .f32⟩ : BufTy).Contents (Elt F)) (Φ₁ (Proc.devRef .tc Cert.KernelIdeal.main_v2036)) (Φ₂ (Proc.devRef .tc Cert.ReferenceIdeal.main_v2048)) := by rw [eq2 (at_ fa8 (i := 71) rfl), eq2 (at_ fb2 (i := 38) rfl), x2, e145] <;> rfl
  have e147 : @Eq ((⟨Cert.KernelIdeal.S_, .f32⟩ : BufTy).Contents (Elt F)) (Φ₁ (Proc.devRef .tc Cert.KernelIdeal.main_cst_628)) (Φ₂ (Proc.devRef .tc Cert.ReferenceIdeal.main_cst_628)) := step0 (β := ((⟨Cert.KernelIdeal.S_, .f32⟩ : BufTy).Contents (Elt F))) (eq0 (at_ fa8 (i := 72) rfl) :) (eq0 (at_ fb2 (i := 39) rfl) :)
  have e148 : @Eq ((⟨Cert.KernelIdeal.S131072, .f32⟩ : BufTy).Contents (Elt F)) (Φ₁ (Proc.devRef .tc Cert.KernelIdeal.main_v2037)) (Φ₂ (Proc.devRef .tc Cert.ReferenceIdeal.main_v2049)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 40) rfl) :) e147
  have e149 : @Eq ((⟨Cert.KernelIdeal.S131072, .f32⟩ : BufTy).Contents (Elt F)) (Φ₁ (Proc.devRef .tc Cert.KernelIdeal.main_v2038)) (Φ₂ (Proc.devRef .tc Cert.ReferenceIdeal.main_v2050)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 41) rfl) :) e148 e33
  have e150 : @Eq ((⟨Cert.KernelIdeal.S1x131072, .f32⟩ : BufTy).Contents (Elt F)) (Φ₁ (Proc.devRef .tc Cert.KernelIdeal.main_v2039)) (Φ₂ (Proc.devRef .tc Cert.ReferenceIdeal.main_v2051)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 42) rfl) :) e149
  have e151 : @Eq ((⟨Cert.KernelIdeal.S32x131072, .f32⟩ : BufTy).Contents (Elt F)) (Φ₁ (Proc.devRef .tc Cert.KernelIdeal.main_v2040)) (Φ₂ (Proc.devRef .tc Cert.ReferenceIdeal.main_v2052)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 43) rfl) :) e150
  have e152 : @Eq ((⟨Cert.KernelIdeal.S32x131072, .f32⟩ : BufTy).Contents (Elt F)) (Φ₁ (Proc.devRef .tc Cert.KernelIdeal.main_v2041)) (Φ₂ (Proc.devRef .tc Cert.ReferenceIdeal.main_v2053)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 44) rfl) :) e92 e151
  have e153 : @Eq ((⟨Cert.KernelIdeal.S_, .f32⟩ : BufTy).Contents (Elt F)) (Φ₁ (Proc.devRef .tc Cert.KernelIdeal.main_cst_629)) (Φ₂ (Proc.devRef .tc Cert.ReferenceIdeal.main_cst_629)) := step0 (β := ((⟨Cert.KernelIdeal.S_, .f32⟩ : BufTy).Contents (Elt F))) (eq0 (at_ fa8 (i := 78) rfl) :) (eq0 (at_ fb2 (i := 45) rfl) :)
  have e154 : @Eq ((⟨Cert.KernelIdeal.S131072, .f32⟩ : BufTy).Contents (Elt F)) (Φ₁ (Proc.devRef .tc Cert.KernelIdeal.main_v2042)) (Φ₂ (Proc.devRef .tc Cert.ReferenceIdeal.main_v2054)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 46) rfl) :) e153
  have e155 : @Eq ((⟨Cert.KernelIdeal.S131072, .f32⟩ : BufTy).Contents (Elt F)) (Φ₁ (Proc.devRef .tc Cert.KernelIdeal.main_v2043)) (Φ₂ (Proc.devRef .tc Cert.ReferenceIdeal.main_v2055)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 47) rfl) :) e154 e34
  have e156 : @Eq ((⟨Cert.KernelIdeal.S1x131072, .f32⟩ : BufTy).Contents (Elt F)) (Φ₁ (Proc.devRef .tc Cert.KernelIdeal.main_v2044)) (Φ₂ (Proc.devRef .tc Cert.ReferenceIdeal.main_v2056)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 48) rfl) :) e155
  have e157 : @Eq ((⟨Cert.KernelIdeal.S32x131072, .f32⟩ : BufTy).Contents (Elt F)) (Φ₁ (Proc.devRef .tc Cert.KernelIdeal.main_v2045)) (Φ₂ (Proc.devRef .tc Cert.ReferenceIdeal.main_v2057)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 49) rfl) :) e156
  have e158 : @Eq ((⟨Cert.KernelIdeal.S32x131072, .f32⟩ : BufTy).Contents (Elt F)) (Φ₁ (Proc.devRef .tc Cert.KernelIdeal.main_v2046)) (Φ₂ (Proc.devRef .tc Cert.ReferenceIdeal.main_v2058)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 50) rfl) :) e152 e157
  have e159 : @Eq ((⟨Cert.KernelIdeal.S1x131072, .f32⟩ : BufTy).Contents (Elt F)) (Φ₁ (Proc.devRef .tc Cert.KernelIdeal.main_v2047)) (Φ₂ (Proc.devRef .tc Cert.ReferenceIdeal.main_v2059)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 51) rfl) :) e33
  have e160 : @Eq ((⟨Cert.KernelIdeal.S32x131072, .f32⟩ : BufTy).Contents (Elt F)) (Φ₁ (Proc.devRef .tc Cert.KernelIdeal.main_v2048)) (Φ₂ (Proc.devRef .tc Cert.ReferenceIdeal.main_v2060)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 52) rfl) :) e159
  have e161 : @Eq ((⟨Cert.KernelIdeal.S32x131072, .f32⟩ : BufTy).Contents (Elt F)) (Φ₁ (Proc.devRef .tc Cert.KernelIdeal.main_v2049)) (Φ₂ (Proc.devRef .tc Cert.ReferenceIdeal.main_v2061)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 53) rfl) :) e110 e160
  have e162 : @Eq ((⟨Cert.KernelIdeal.S_, .f32⟩ : BufTy).Contents (Elt F)) (Φ₁ (Proc.devRef .tc Cert.KernelIdeal.main_cst_630)) (Φ₂ (Proc.devRef .tc Cert.ReferenceIdeal.main_cst_630)) := step0 (β := ((⟨Cert.KernelIdeal.S_, .f32⟩ : BufTy).Contents (Elt F))) (eq0 (at_ fa8 (i := 87) rfl) :) (eq0 (at_ fb2 (i := 54) rfl) :)
  have e163 : @Eq ((⟨Cert.KernelIdeal.S131072, .f32⟩ : BufTy).Contents (Elt F)) (Φ₁ (Proc.devRef .tc Cert.KernelIdeal.main_v2050)) (Φ₂ (Proc.devRef .tc Cert.ReferenceIdeal.main_v2062)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 55) rfl) :) e162
  have e164 : @Eq ((⟨Cert.KernelIdeal.S131072, .f32⟩ : BufTy).Contents (Elt F)) (Φ₁ (Proc.devRef .tc Cert.KernelIdeal.main_v2051)) (Φ₂ (Proc.devRef .tc Cert.ReferenceIdeal.main_v2063)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 56) rfl) :) e163 e34
  have e165 : @Eq ((⟨Cert.KernelIdeal.S1x131072, .f32⟩ : BufTy).Contents (Elt F)) (Φ₁ (Proc.devRef .tc Cert.KernelIdeal.main_v2052)) (Φ₂ (Proc.devRef .tc Cert.ReferenceIdeal.main_v2064)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 57) rfl) :) e164
  have e166 : @Eq ((⟨Cert.KernelIdeal.S32x131072, .f32⟩ : BufTy).Contents (Elt F)) (Φ₁ (Proc.devRef .tc Cert.KernelIdeal.main_v2053)) (Φ₂ (Proc.devRef .tc Cert.ReferenceIdeal.main_v2065)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 58) rfl) :) e165
  have e167 : @Eq ((⟨Cert.KernelIdeal.S32x131072, .f32⟩ : BufTy).Contents (Elt F)) (Φ₁ (Proc.devRef .tc Cert.KernelIdeal.main_v2054)) (Φ₂ (Proc.devRef .tc Cert.ReferenceIdeal.main_v2066)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 59) rfl) :) e161 e166
  have e168 : @Eq ((⟨Cert.KernelIdeal.S32x131072, .f32⟩ : BufTy).Contents (Elt F)) (Φ₁ (Proc.devRef .tc Cert.KernelIdeal.main_v2055)) (Φ₂ (Proc.devRef .tc Cert.ReferenceIdeal.main_v2067)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 0) rfl) :) e158 e167
  have e169 : @Eq ((⟨Cert.KernelIdeal.S_, .f32⟩ : BufTy).Contents (Elt F)) (Φ₁ (Proc.devRef .tc Cert.KernelIdeal.main_cst_631)) (Φ₂ (Proc.devRef .tc Cert.ReferenceIdeal.main_cst_631)) := step0 (β := ((⟨Cert.KernelIdeal.S_, .f32⟩ : BufTy).Contents (Elt F))) (eq0 (at_ fa8 (i := 94) rfl) :) (eq0 (at_ fb3 (i := 1) rfl) :)
  have e170 : @Eq ((⟨Cert.KernelIdeal.S131072, .f32⟩ : BufTy).Contents (Elt F)) (Φ₁ (Proc.devRef .tc Cert.KernelIdeal.main_v2056)) (Φ₂ (Proc.devRef .tc Cert.ReferenceIdeal.main_v2068)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 2) rfl) :) e169
  have e171 : @Eq ((⟨Cert.KernelIdeal.S131072, .f32⟩ : BufTy).Contents (Elt F)) (Φ₁ (Proc.devRef .tc Cert.KernelIdeal.main_v2057)) (Φ₂ (Proc.devRef .tc Cert.ReferenceIdeal.main_v2069)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 3) rfl) :) e170 e33
  have e172 : @Eq ((⟨Cert.KernelIdeal.S1x131072, .f32⟩ : BufTy).Contents (Elt F)) (Φ₁ (Proc.devRef .tc Cert.KernelIdeal.main_v2058)) (Φ₂ (Proc.devRef .tc Cert.ReferenceIdeal.main_v2070)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 4) rfl) :) e171
  have e173 : @Eq ((⟨Cert.KernelIdeal.S32x131072, .f32⟩ : BufTy).Contents (Elt F)) (Φ₁ (Proc.devRef .tc Cert.KernelIdeal.main_v2059)) (Φ₂ (Proc.devRef .tc Cert.ReferenceIdeal.main_v2071)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 5) rfl) :) e172
  have e174 : @Eq ((⟨Cert.KernelIdeal.S32x131072, .f32⟩ : BufTy).Contents (Elt F)) (Φ₁ (Proc.devRef .tc Cert.KernelIdeal.main_v2060)) (Φ₂ (Proc.devRef .tc Cert.ReferenceIdeal.main_v2072)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 6) rfl) :) e128 e173
  have e175 : @Eq ((⟨Cert.KernelIdeal.S1x131072, .f32⟩ : BufTy).Contents (Elt F)) (Φ₁ (Proc.devRef .tc Cert.KernelIdeal.main_v2061)) (Φ₂ (Proc.devRef .tc Cert.ReferenceIdeal.main_v2073)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 7) rfl) :) e34
  have e176 : @Eq ((⟨Cert.KernelIdeal.S32x131072, .f32⟩ : BufTy).Contents (Elt F)) (Φ₁ (Proc.devRef .tc Cert.KernelIdeal.main_v2062)) (Φ₂ (Proc.devRef .tc Cert.ReferenceIdeal.main_v2074)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 8) rfl) :) e175
  have e177 : @Eq ((⟨Cert.KernelIdeal.S32x131072, .f32⟩ : BufTy).Contents (Elt F)) (Φ₁ (Proc.devRef .tc Cert.KernelIdeal.main_v2063)) (Φ₂ (Proc.devRef .tc Cert.ReferenceIdeal.main_v2075)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 9) rfl) :) e174 e176
  have e178 : @Eq ((⟨Cert.KernelIdeal.S32x131072, .f32⟩ : BufTy).Contents (Elt F)) (Φ₁ (Proc.devRef .tc Cert.KernelIdeal.main_v2064)) (Φ₂ (Proc.devRef .tc Cert.ReferenceIdeal.main_v2076)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 10) rfl) :) e168 e177
  have e179 : @Eq ((⟨Cert.KernelIdeal.S1x131072, .f32⟩ : BufTy).Contents (Elt F)) (Φ₁ (Proc.devRef .tc Cert.KernelIdeal.main_v2065)) (Φ₂ (Proc.devRef .tc Cert.ReferenceIdeal.main_v2077)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 11) rfl) :) e33
  have e180 : @Eq ((⟨Cert.KernelIdeal.S32x131072, .f32⟩ : BufTy).Contents (Elt F)) (Φ₁ (Proc.devRef .tc Cert.KernelIdeal.main_v2066)) (Φ₂ (Proc.devRef .tc Cert.ReferenceIdeal.main_v2078)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 12) rfl) :) e179
  have e181 : @Eq ((⟨Cert.KernelIdeal.S32x131072, .f32⟩ : BufTy).Contents (Elt F)) (Φ₁ (Proc.devRef .tc Cert.KernelIdeal.main_v2067)) (Φ₂ (Proc.devRef .tc Cert.ReferenceIdeal.main_v2079)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 13) rfl) :) e146 e180
  have e182 : @Eq ((⟨Cert.KernelIdeal.S1x131072, .f32⟩ : BufTy).Contents (Elt F)) (Φ₁ (Proc.devRef .tc Cert.KernelIdeal.main_v2068)) (Φ₂ (Proc.devRef .tc Cert.ReferenceIdeal.main_v2080)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 14) rfl) :) e34
  have e183 : @Eq ((⟨Cert.KernelIdeal.S32x131072, .f32⟩ : BufTy).Contents (Elt F)) (Φ₁ (Proc.devRef .tc Cert.KernelIdeal.main_v2069)) (Φ₂ (Proc.devRef .tc Cert.ReferenceIdeal.main_v2081)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 15) rfl) :) e182
  have e184 : @Eq ((⟨Cert.KernelIdeal.S32x131072, .f32⟩ : BufTy).Contents (Elt F)) (Φ₁ (Proc.devRef .tc Cert.KernelIdeal.main_v2070)) (Φ₂ (Proc.devRef .tc Cert.ReferenceIdeal.main_v2082)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 16) rfl) :) e181 e183
  have e185 : @Eq ((⟨Cert.KernelIdeal.S32x131072, .f32⟩ : BufTy).Contents (Elt F)) (Φ₁ (Proc.devRef .tc Cert.KernelIdeal.main_v2071)) (Φ₂ (Proc.devRef .tc Cert.ReferenceIdeal.main_v2083)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 17) rfl) :) e178 e184
  have e186 : @Eq ((⟨Cert.KernelIdeal.S131072x32, .f32⟩ : BufTy).Contents (Elt F)) (Φ₁ (Proc.devRef .tc Cert.KernelIdeal.main_v2072)) (Φ₂ (Proc.devRef .tc Cert.ReferenceIdeal.main_v2084)) := by rw [eq1 (at_ fa8 (i := 111) rfl), eq1 (at_ fb3 (i := 18) rfl), e185] <;> rfl
  exact e186

end Cert.Bridge

end
-- ==== Proof.RefOps6.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 48 of @main: 75 operations, writing buffers 3248 … 3322. -/
abbrev w48 : List (HloOp τ sig (Elt F)) :=
  [ StableHlo.unary main_v2207 main_v2208 (broadcastInDim S32x131072 ![0, 1] bcast_S1x131072_S32x131072_0_1 : (⟨S1x131072, .f32⟩ : BufTy).Contents (Elt F) → (⟨S32x131072, .f32⟩ : BufTy).Contents (Elt F)),
    StableHlo.binary main_v2178 main_v2208 main_v2209 (mulf : (⟨S32x131072, .f32⟩ : BufTy).Contents (Elt F) → (⟨S32x131072, .f32⟩ : BufTy).Contents (Elt F) → (⟨S32x131072, .f32⟩ : BufTy).Contents (Elt F)),
    StableHlo.unary main_v2112 main_v2210 (broadcastInDim S1x131072 ![1] bcast_S131072_S1x131072_1 : (⟨S131072, .f32⟩ : BufTy).Contents (Elt F) → (⟨S1x131072, .f32⟩ : BufTy).Contents (Elt F)),
    StableHlo.unary main_v2210 main_v2211 (broadcastInDim S32x131072 ![0, 1] bcast_S1x131072_S32x131072_0_1 : (⟨S1x131072, .f32⟩ : BufTy).Contents (Elt F) → (⟨S32x131072, .f32⟩ : BufTy).Contents (Elt F)),
    StableHlo.binary main_v2209 main_v2211 main_v2212 (mulf : (⟨S32x131072, .f32⟩ : BufTy).Contents (Elt F) → (⟨S32x131072, .f32⟩ : BufTy).Contents (Elt F) → (⟨S32x131072, .f32⟩ : BufTy).Contents (Elt F)),
    StableHlo.binary main_v2206 main_v2212 main_v2213 (addf : (⟨S32x131072, .f32⟩ : BufTy).Contents (Elt F) → (⟨S32x131072, .f32⟩ : BufTy).Contents (Elt F) → (⟨S32x131072, .f32⟩ : BufTy).Contents (Elt F)),
    StableHlo.unary main_v2213 main_v2214 ((transpose S131072x32 [1, 0] · transposes_S32x131072_S131072x32_1_0) : (⟨S32x131072, .f32⟩ : BufTy).Contents (Elt F) → (⟨S131072x32, .f32⟩ : BufTy).Contents (Elt F)),
    StableHlo.binary main_v2085 main_v2214 main_v2215 (mulf : (⟨S131072x32, .f32⟩ : BufTy).Contents (Elt F) → (⟨S131072x32, .f32⟩ : BufTy).Contents (Elt F) → (⟨S131072x32, .f32⟩ : BufTy).Contents (Elt F)),
    StableHlo.nullary main_c_670 (constantI S_ 32 0#32),
    StableHlo.unary main_c_670 main_v2216 (broadcastInDim S2 ![] bcast_S_S2 : (⟨S_, .i32⟩ : BufTy).Contents (Elt F) → (⟨S2, .i32⟩ : BufTy).Contents (Elt F)),
    StableHlo.binary main_c_16 main_v2216 main_v2217 (cmpi .slt : (⟨S2, .i32⟩ : BufTy).Contents (Elt F) → (⟨S2, .i32⟩ : BufTy).Contents (Elt F) → (⟨S2, .i1⟩ : BufTy).Contents (Elt F)),
    StableHlo.nullary main_c_671 (constantI S_ 32 4#32),
    StableHlo.unary main_c_671 main_v2218 (broadcastInDim S2 ![] bcast_S_S2 : (⟨S_, .i32⟩ : BufTy).Contents (Elt F) → (⟨S2, .i32⟩ : BufTy).Contents (Elt F)),
    StableHlo.binary main_c_16 main_v2218 main_v2219 (addi : (⟨S2, .i32⟩ : BufTy).Contents (Elt F) → (⟨S2, .i32⟩ : BufTy).Contents (Elt F) → (⟨S2, .i32⟩ : BufTy).Contents (Elt F)),
    StableHlo.ternary main_v2217 main_v2219 main_c_16 main_v2220 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2220 main_v2221 (broadcastInDim S2x1 ![0] bcast_S2_S2x1_0 : (⟨S2, .i32⟩ : BufTy).Contents (Elt F) → (⟨S2x1, .i32⟩ : BufTy).Contents (Elt F)),
    StableHlo.binary main_v8 main_v2221 main_v2222 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2222 main_v2223 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2223 main_v2224 rfl shapeCasts_S131072x1_S131072,
    StableHlo.nullary main_cst_672 (constant S_ .f32 0x3F800000#32),
    StableHlo.unary main_cst_672 main_v2225 (broadcastInDim S131072 ![] bcast_S_S131072 : (⟨S_, .f32⟩ : BufTy).Contents (Elt F) → (⟨S131072, .f32⟩ : BufTy).Contents (Elt F)),
    StableHlo.binary main_v2224 main_v2225 main_v2226 (addf : (⟨S131072, .f32⟩ : BufTy).Contents (Elt F) → (⟨S131072, .f32⟩ : BufTy).Contents (Elt F) → (⟨S131072, .f32⟩ : BufTy).Contents (Elt F)),
    StableHlo.nullary main_cst_673 (constant S_ .f32 0x3F000000#32),
    StableHlo.unary main_cst_673 main_v2227 (broadcastInDim S131072 ![] bcast_S_S131072 : (⟨S_, .f32⟩ : BufTy).Contents (Elt F) → (⟨S131072, .f32⟩ : BufTy).Contents (Elt F)),
    StableHlo.binary main_v2226 main_v2227 main_v2228 (mulf : (⟨S131072, .f32⟩ : BufTy).Contents (Elt F) → (⟨S131072, .f32⟩ : BufTy).Contents (Elt F) → (⟨S131072, .f32⟩ : BufTy).Contents (Elt F)),
    StableHlo.nullary main_cst_674 (constant S_ .f32 0x437F0000#32),
    StableHlo.unary main_cst_674 main_v2229 (broadcastInDim S131072 ![] bcast_S_S131072 : (⟨S_, .f32⟩ : BufTy).Contents (Elt F) → (⟨S131072, .f32⟩ : BufTy).Contents (Elt F)),
    StableHlo.binary main_v2228 main_v2229 main_v2230 (mulf : (⟨S131072, .f32⟩ : BufTy).Contents (Elt F) → (⟨S131072, .f32⟩ : BufTy).Contents (Elt F) → (⟨S131072, .f32⟩ : BufTy).Contents (Elt F)),
    StableHlo.unary main_v2222 main_v2231 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2231 main_v2232 rfl shapeCasts_S131072x1_S131072,
    StableHlo.nullary main_cst_675 (constant S_ .f32 0x3F800000#32),
    StableHlo.unary main_cst_675 main_v2233 (broadcastInDim S131072 ![] bcast_S_S131072 : (⟨S_, .f32⟩ : BufTy).Contents (Elt F) → (⟨S131072, .f32⟩ : BufTy).Contents (Elt F)),
    StableHlo.binary main_v2232 main_v2233 main_v2234 (addf : (⟨S131072, .f32⟩ : BufTy).Contents (Elt F) → (⟨S131072, .f32⟩ : BufTy).Contents (Elt F) → (⟨S131072, .f32⟩ : BufTy).Contents (Elt F)),
    StableHlo.nullary main_cst_676 (constant S_ .f32 0x3F000000#32),
    StableHlo.unary main_cst_676 main_v2235 (broadcastInDim S131072 ![] bcast_S_S131072 : (⟨S_, .f32⟩ : BufTy).Contents (Elt F) → (⟨S131072, .f32⟩ : BufTy).Contents (Elt F)),
    StableHlo.binary main_v2234 main_v2235 main_v2236 (mulf : (⟨S131072, .f32⟩ : BufTy).Contents (Elt F) → (⟨S131072, .f32⟩ : BufTy).Contents (Elt F) → (⟨S131072, .f32⟩ : BufTy).Contents (Elt F)),
    StableHlo.nullary main_cst_677 (constant S_ .f32 0x43150000#32),
    StableHlo.unary main_cst_677 main_v2237 (broadcastInDim S131072 ![] bcast_S_S131072 : (⟨S_, .f32⟩ : BufTy).Contents (Elt F) → (⟨S131072, .f32⟩ : BufTy).Contents (Elt F)),
    StableHlo.binary main_v2236 main_v2237 main_v2238 (mulf : (⟨S131072, .f32⟩ : BufTy).Contents (Elt F) → (⟨S131072, .f32⟩ : BufTy).Contents (Elt F) → (⟨S131072, .f32⟩ : BufTy).Contents (Elt F)),
    StableHlo.unary main_v2230 main_v2239 (Host.floor : (⟨S131072, .f32⟩ : BufTy).Contents (Elt F) → (⟨S131072, .f32⟩ : BufTy).Contents (Elt F)),
    StableHlo.unary main_v2238 main_v2240 (Host.floor : (⟨S131072, .f32⟩ : BufTy).Contents (Elt F) → (⟨S131072, .f32⟩ : BufTy).Contents (Elt F)),
    StableHlo.binary main_v2230 main_v2239 main_v2241 (subf : (⟨S131072, .f32⟩ : BufTy).Contents (Elt F) → (⟨S131072, .f32⟩ : BufTy).Contents (Elt F) → (⟨S131072, .f32⟩ : BufTy).Contents (Elt F)),
    StableHlo.binary main_v2238 main_v2240 main_v2242 (subf : (⟨S131072, .f32⟩ : BufTy).Contents (Elt F) → (⟨S131072, .f32⟩ : BufTy).Contents (Elt F) → (⟨S131072, .f32⟩ : BufTy).Contents (Elt F)),
    StableHlo.unary main_v2239 main_v2243 (fptosi 32 : (⟨S131072, .f32⟩ : BufTy).Contents (Elt F) → (⟨S131072, .i32⟩ : BufTy).Contents (Elt F)),
    StableHlo.nullary main_c_678 (constantI S_ 32 0#32),
    StableHlo.nullary main_c_679 (constantI S_ 32 255#32),
    StableHlo.TRef.unary (.of main_c_678) main_call68.v0 id,
    StableHlo.TRef.unary main_call68.v0 main_call68.v1 (broadcastInDim S131072 ![] bcast_S_S131072),
    StableHlo.TRef.binary main_call68.v1 (.of main_v2243) main_call68.v2 maxsi,
    StableHlo.TRef.unary (.of main_c_679) main_call68.v3 id,
    StableHlo.TRef.unary main_call68.v3 main_call68.v4 (broadcastInDim S131072 ![] bcast_S_S131072),
    StableHlo.TRef.binary main_call68.v4 main_call68.v2 main_call68.v5 minsi,
    StableHlo.nullary main_c_680 (constantI S_ 32 1#32),
    StableHlo.unary main_c_680 main_v2245 (broadcastInDim S131072 ![] bcast_S_S131072 : (⟨S_, .i32⟩ : BufTy).Contents (Elt F) → (⟨S131072, .i32⟩ : BufTy).Contents (Elt F)),
    StableHlo.binary main_v2244 main_v2245 main_v2246 (addi : (⟨S131072, .i32⟩ : BufTy).Contents (Elt F) → (⟨S131072, .i32⟩ : BufTy).Contents (Elt F) → (⟨S131072, .i32⟩ : BufTy).Contents (Elt F)),
    StableHlo.nullary main_c_681 (constantI S_ 32 0#32),
    StableHlo.nullary main_c_682 (constantI S_ 32 255#32),
    StableHlo.TRef.unary (.of main_c_681) main_call69.v0 id,
    StableHlo.TRef.unary main_call69.v0 main_call69.v1 (broadcastInDim S131072 ![] bcast_S_S131072),
    StableHlo.TRef.binary main_call69.v1 (.of main_v2246) main_call69.v2 maxsi,
    StableHlo.TRef.unary (.of main_c_682) main_call69.v3 id,
    StableHlo.TRef.unary main_call69.v3 main_call69.v4 (broadcastInDim S131072 ![] bcast_S_S131072),
    StableHlo.TRef.binary main_call69.v4 main_call69.v2 main_call69.v5 minsi,
    StableHlo.unary main_v2240 main_v2248 (fptosi 32 : (⟨S131072, .f32⟩ : BufTy).Contents (Elt F) → (⟨S131072, .i32⟩ : BufTy).Contents (Elt F)),
    StableHlo.nullary main_c_683 (constantI S_ 32 0#32),
    StableHlo.nullary main_c_684 (constantI S_ 32 149#32),
    StableHlo.TRef.unary (.of main_c_683) main_call70.v0 id,
    StableHlo.TRef.unary main_call70.v0 main_call70.v1 (broadcastInDim S131072 ![] bcast_S_S131072),
    StableHlo.TRef.binary main_call70.v1 (.of main_v2248) main_call70.v2 maxsi,
    StableHlo.TRef.unary (.of main_c_684) main_call70.v3 id,
    StableHlo.TRef.unary main_call70.v3 main_call70.v4 (broadcastInDim S131072 ![] bcast_S_S131072),
    StableHlo.TRef.binary main_call70.v4 main_call70.v2 main_call70.v5 minsi,
    StableHlo.nullary main_c_685 (constantI S_ 32 1#32),
    StableHlo.unary main_c_685 main_v2250 (broadcastInDim S131072 ![] bcast_S_S131072 : (⟨S_, .i32⟩ : BufTy).Contents (Elt F) → (⟨S131072, .i32⟩ : BufTy).Contents (Elt F)),
    StableHlo.binary main_v2249 main_v2250 main_v2251 (addi : (⟨S131072, .i32⟩ : BufTy).Contents (Elt F) → (⟨S131072, .i32⟩ : BufTy).Contents (Elt F) → (⟨S131072, .i32⟩ : BufTy).Contents (Elt F)) ]
theorem w48_eq (c : Dev nD) : main_part48 (F := F) c = seq w48 := rfl
theorem w48_sub : (w48 : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub ..⟩
theorem w48_fresh : (w48 : List (HloOp τ sig (Elt F))).Forall fun op => op.fresh = ∅ := by
  simp only [List.Forall]; repeat' constructor
set_option maxHeartbeats 4000000 in
theorem w48_chain : Chain 3248 (w48 : List (HloOp τ sig (Elt F))) :=
  Chain.cons (stepAt_unary 3248 _ _ _ rfl (by decide)) <|
  Chain.cons (stepAt_binary 3249 _ _ _ _ rfl (by decide) (by decide)) <|
  Chain.cons (stepAt_unary 3250 _ _ _ rfl (by decide)) <|
  Chain.cons (stepAt_unary 3251 _ _ _ rfl (by decide)) <|
  Chain.cons (stepAt_binary 3252 _ _ _ _ rfl (by decide) (by decide)) <|
  Chain.cons (stepAt_binary 3253 _ _ _ _ rfl (by decide) (by decide)) <|
  Chain.cons (stepAt_unary 3254 _ _ _ rfl (by decide)) <|
  Chain.cons (stepAt_binary 3255 _ _ _ _ rfl (by decide) (by decide)) <|
  Chain.cons (stepAt_nullary 3256 _ _ rfl) <|
  Chain.cons (stepAt_unary 3257 _ _ _ rfl (by decide)) <|
  Chain.cons (stepAt_binary 3258 _ _ _ _ rfl (by decide) (by decide)) <|
  Chain.cons (stepAt_nullary 3259 _ _ rfl) <|
  Chain.cons (stepAt_unary 3260 _ _ _ rfl (by decide)) <|
  Chain.cons (stepAt_binary 3261 _ _ _ _ rfl (by decide) (by decide)) <|
  Chain.cons (stepAt_ternary 3262 _ _ _ _ _ rfl (by decide) (by decide) (by decide)) <|
  Chain.cons (stepAt_unary 3263 _ _ _ rfl (by decide)) <|
  Chain.cons (stepAt_binary 3264 _ _ _ _ rfl (by decide) (by decide)) <|
  Chain.cons (stepAt_unary 3265 _ _ _ rfl (by decide)) <|
  Chain.cons (stepAt_reshape 3266 _ _ _ _ rfl (by decide)) <|
  Chain.cons (stepAt_nullary 3267 _ _ rfl) <|
  Chain.cons (stepAt_unary 3268 _ _ _ rfl (by decide)) <|
  Chain.cons (stepAt_binary 3269 _ _ _ _ rfl (by decide) (by decide)) <|
  Chain.cons (stepAt_nullary 3270 _ _ rfl) <|
  Chain.cons (stepAt_unary 3271 _ _ _ rfl (by decide)) <|
  Chain.cons (stepAt_binary 3272 _ _ _ _ rfl (by decide) (by decide)) <|
  Chain.cons (stepAt_nullary 3273 _ _ rfl) <|
  Chain.cons (stepAt_unary 3274 _ _ _ rfl (by decide)) <|
  Chain.cons (stepAt_binary 3275 _ _ _ _ rfl (by decide) (by decide)) <|
  Chain.cons (stepAt_unary 3276 _ _ _ rfl (by decide)) <|
  Chain.cons (stepAt_reshape 3277 _ _ _ _ rfl (by decide)) <|
  Chain.cons (stepAt_nullary 3278 _ _ rfl) <|
  Chain.cons (stepAt_unary 3279 _ _ _ rfl (by decide)) <|
  Chain.cons (stepAt_binary 3280 _ _ _ _ rfl (by decide) (by decide)) <|
  Chain.cons (stepAt_nullary 3281 _ _ rfl) <|
  Chain.cons (stepAt_unary 3282 _ _ _ rfl (by decide)) <|
  Chain.cons (stepAt_binary 3283 _ _ _ _ rfl (by decide) (by decide)) <|
  Chain.cons (stepAt_nullary 3284 _ _ rfl) <|
  Chain.cons (stepAt_unary 3285 _ _ _ rfl (by decide)) <|
  Chain.cons (stepAt_binary 3286 _ _ _ _ rfl (by decide) (by decide)) <|
  Chain.cons (stepAt_unary 3287 _ _ _ rfl (by decide)) <|
  Chain.cons (stepAt_unary 3288 _ _ _ rfl (by decide)) <|
  Chain.cons (stepAt_binary 3289 _ _ _ _ rfl (by decide) (by decide)) <|
  Chain.cons (stepAt_binary 3290 _ _ _ _ rfl (by decide) (by decide)) <|
  Chain.cons (stepAt_unary 3291 _ _ _ rfl (by decide)) <|
  Chain.cons (stepAt_nullary 3292 _ _ rfl) <|
  Chain.cons (stepAt_nullary 3293 _ _ rfl) <|
  Chain.cons (stepAt_unary 3294 _ _ _ rfl (by decide)) <|
  Chain.cons (stepAt_unary 3295 _ _ _ rfl (by decide)) <|
  Chain.cons (stepAt_binary 3296 _ _ _ _ rfl (by decide) (by decide)) <|
  Chain.cons (stepAt_unary 3297 _ _ _ rfl (by decide)) <|
  Chain.cons (stepAt_unary 3298 _ _ _ rfl (by decide)) <|
  Chain.cons (stepAt_binary 3299 _ _ _ _ rfl (by decide) (by decide)) <|
  Chain.cons (stepAt_nullary 3300 _ _ rfl) <|
  Chain.cons (stepAt_unary 3301 _ _ _ rfl (by decide)) <|
  Chain.cons (stepAt_binary 3302 _ _ _ _ rfl (by decide) (by decide)) <|
  Chain.cons (stepAt_nullary 3303 _ _ rfl) <|
  Chain.cons (stepAt_nullary 3304 _ _ rfl) <|
  Chain.cons (stepAt_unary 3305 _ _ _ rfl (by decide)) <|
  Chain.cons (stepAt_unary 3306 _ _ _ rfl (by decide)) <|
  Chain.cons (stepAt_binary 3307 _ _ _ _ rfl (by decide) (by decide)) <|
  Chain.cons (stepAt_unary 3308 _ _ _ rfl (by decide)) <|
  Chain.cons (stepAt_unary 3309 _ _ _ rfl (by decide)) <|
  Chain.cons (stepAt_binary 3310 _ _ _ _ rfl (by decide) (by decide)) <|
  Chain.cons (stepAt_unary 3311 _ _ _ rfl (by decide)) <|
  Chain.cons (stepAt_nullary 3312 _ _ rfl) <|
  Chain.cons (stepAt_nullary 3313 _ _ rfl) <|
  Chain.cons (stepAt_unary 3314 _ _ _ rfl (by decide)) <|
  Chain.cons (stepAt_unary 3315 _ _ _ rfl (by decide)) <|
  Chain.cons (stepAt_binary 3316 _ _ _ _ rfl (by decide) (by decide)) <|
  Chain.cons (stepAt_unary 3317 _ _ _ rfl (by decide)) <|
  Chain.cons (stepAt_unary 3318 _ _ _ rfl (by decide)) <|
  Chain.cons (stepAt_binary 3319 _ _ _ _ rfl (by decide) (by decide)) <|
  Chain.cons (stepAt_nullary 3320 _ _ rfl) <|
  Chain.cons (stepAt_unary 3321 _ _ _ rfl (by decide)) <|
  Chain.cons (stepAt_binary 3322 _ _ _ _ rfl (by decide) (by decide)) <|
  Chain.nil
theorem w48_length : (w48 : List (HloOp τ sig (Elt F))).length = 75 := rfl

/-- Window 49 of @main: 65 operations, writing buffers 3323 … 3387. -/
abbrev w49 : List (HloOp τ sig (Elt F)) :=
  [ StableHlo.nullary main_c_686 (constantI S_ 32 0#32),
    StableHlo.nullary main_c_687 (constantI S_ 32 149#32),
    StableHlo.TRef.unary (.of main_c_686) main_call71.v0 id,
    StableHlo.TRef.unary main_call71.v0 main_call71.v1 (broadcastInDim S131072 ![] bcast_S_S131072),
    StableHlo.TRef.binary main_call71.v1 (.of main_v2251) main_call71.v2 maxsi,
    StableHlo.TRef.unary (.of main_c_687) main_call71.v3 id,
    StableHlo.TRef.unary main_call71.v3 main_call71.v4 (broadcastInDim S131072 ![] bcast_S_S131072),
    StableHlo.TRef.binary main_call71.v4 main_call71.v2 main_call71.v5 minsi,
    StableHlo.nullary main_c_688 (constantI S_ 32 0#32),
    StableHlo.unary main_c_688 main_v2253 (broadcastInDim S131072 ![] bcast_S_S131072 : (⟨S_, .i32⟩ : BufTy).Contents (Elt F) → (⟨S131072, .i32⟩ : BufTy).Contents (Elt F)),
    StableHlo.binary main_v2249 main_v2253 main_v2254 (cmpi .slt : (⟨S131072, .i32⟩ : BufTy).Contents (Elt F) → (⟨S131072, .i32⟩ : BufTy).Contents (Elt F) → (⟨S131072, .i1⟩ : BufTy).Contents (Elt F)),
    StableHlo.nullary main_c_689 (constantI S_ 32 150#32),
    StableHlo.unary main_c_689 main_v2255 (broadcastInDim S131072 ![] bcast_S_S131072 : (⟨S_, .i32⟩ : BufTy).Contents (Elt F) → (⟨S131072, .i32⟩ : BufTy).Contents (Elt F)),
    StableHlo.binary main_v2249 main_v2255 main_v2256 (addi : (⟨S131072, .i32⟩ : BufTy).Contents (Elt F) → (⟨S131072, .i32⟩ : BufTy).Contents (Elt F) → (⟨S131072, .i32⟩ : BufTy).Contents (Elt F)),
    StableHlo.ternary main_v2254 main_v2256 main_v2249 main_v2257 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_690 (constantI S_ 32 0#32),
    StableHlo.unary main_c_690 main_v2258 (broadcastInDim S131072 ![] bcast_S_S131072 : (⟨S_, .i32⟩ : BufTy).Contents (Elt F) → (⟨S131072, .i32⟩ : BufTy).Contents (Elt F)),
    StableHlo.binary main_v2244 main_v2258 main_v2259 (cmpi .slt : (⟨S131072, .i32⟩ : BufTy).Contents (Elt F) → (⟨S131072, .i32⟩ : BufTy).Contents (Elt F) → (⟨S131072, .i1⟩ : BufTy).Contents (Elt F)),
    StableHlo.nullary main_c_691 (constantI S_ 32 256#32),
    StableHlo.unary main_c_691 main_v2260 (broadcastInDim S131072 ![] bcast_S_S131072 : (⟨S_, .i32⟩ : BufTy).Contents (Elt F) → (⟨S131072, .i32⟩ : BufTy).Contents (Elt F)),
    StableHlo.binary main_v2244 main_v2260 main_v2261 (addi : (⟨S131072, .i32⟩ : BufTy).Contents (Elt F) → (⟨S131072, .i32⟩ : BufTy).Contents (Elt F) → (⟨S131072, .i32⟩ : BufTy).Contents (Elt F)),
    StableHlo.ternary main_v2259 main_v2261 main_v2244 main_v2262 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2257 main_v2263 (broadcastInDim S131072x1 ![0] bcast_S131072_S131072x1_0 : (⟨S131072, .i32⟩ : BufTy).Contents (Elt F) → (⟨S131072x1, .i32⟩ : BufTy).Contents (Elt F)),
    StableHlo.unary main_v2262 main_v2264 (broadcastInDim S131072x1 ![0] bcast_S131072_S131072x1_0 : (⟨S131072, .i32⟩ : BufTy).Contents (Elt F) → (⟨S131072x1, .i32⟩ : BufTy).Contents (Elt F)),
    StableHlo.binary main_v2263 main_v2264 main_v2265 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg19 main_v2265 main_v2266 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_692 (constantI S_ 32 0#32),
    StableHlo.unary main_c_692 main_v2267 (broadcastInDim S131072 ![] bcast_S_S131072 : (⟨S_, .i32⟩ : BufTy).Contents (Elt F) → (⟨S131072, .i32⟩ : BufTy).Contents (Elt F)),
    StableHlo.binary main_v2249 main_v2267 main_v2268 (cmpi .slt : (⟨S131072, .i32⟩ : BufTy).Contents (Elt F) → (⟨S131072, .i32⟩ : BufTy).Contents (Elt F) → (⟨S131072, .i1⟩ : BufTy).Contents (Elt F)),
    StableHlo.nullary main_c_693 (constantI S_ 32 150#32),
    StableHlo.unary main_c_693 main_v2269 (broadcastInDim S131072 ![] bcast_S_S131072 : (⟨S_, .i32⟩ : BufTy).Contents (Elt F) → (⟨S131072, .i32⟩ : BufTy).Contents (Elt F)),
    StableHlo.binary main_v2249 main_v2269 main_v2270 (addi : (⟨S131072, .i32⟩ : BufTy).Contents (Elt F) → (⟨S131072, .i32⟩ : BufTy).Contents (Elt F) → (⟨S131072, .i32⟩ : BufTy).Contents (Elt F)),
    StableHlo.ternary main_v2268 main_v2270 main_v2249 main_v2271 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_694 (constantI S_ 32 0#32),
    StableHlo.unary main_c_694 main_v2272 (broadcastInDim S131072 ![] bcast_S_S131072 : (⟨S_, .i32⟩ : BufTy).Contents (Elt F) → (⟨S131072, .i32⟩ : BufTy).Contents (Elt F)),
    StableHlo.binary main_v2247 main_v2272 main_v2273 (cmpi .slt : (⟨S131072, .i32⟩ : BufTy).Contents (Elt F) → (⟨S131072, .i32⟩ : BufTy).Contents (Elt F) → (⟨S131072, .i1⟩ : BufTy).Contents (Elt F)),
    StableHlo.nullary main_c_695 (constantI S_ 32 256#32),
    StableHlo.unary main_c_695 main_v2274 (broadcastInDim S131072 ![] bcast_S_S131072 : (⟨S_, .i32⟩ : BufTy).Contents (Elt F) → (⟨S131072, .i32⟩ : BufTy).Contents (Elt F)),
    StableHlo.binary main_v2247 main_v2274 main_v2275 (addi : (⟨S131072, .i32⟩ : BufTy).Contents (Elt F) → (⟨S131072, .i32⟩ : BufTy).Contents (Elt F) → (⟨S131072, .i32⟩ : BufTy).Contents (Elt F)),
    StableHlo.ternary main_v2273 main_v2275 main_v2247 main_v2276 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2271 main_v2277 (broadcastInDim S131072x1 ![0] bcast_S131072_S131072x1_0 : (⟨S131072, .i32⟩ : BufTy).Contents (Elt F) → (⟨S131072x1, .i32⟩ : BufTy).Contents (Elt F)),
    StableHlo.unary main_v2276 main_v2278 (broadcastInDim S131072x1 ![0] bcast_S131072_S131072x1_0 : (⟨S131072, .i32⟩ : BufTy).Contents (Elt F) → (⟨S131072x1, .i32⟩ : BufTy).Contents (Elt F)),
    StableHlo.binary main_v2277 main_v2278 main_v2279 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg19 main_v2279 main_v2280 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_696 (constantI S_ 32 0#32),
    StableHlo.unary main_c_696 main_v2281 (broadcastInDim S131072 ![] bcast_S_S131072 : (⟨S_, .i32⟩ : BufTy).Contents (Elt F) → (⟨S131072, .i32⟩ : BufTy).Contents (Elt F)),
    StableHlo.binary main_v2252 main_v2281 main_v2282 (cmpi .slt : (⟨S131072, .i32⟩ : BufTy).Contents (Elt F) → (⟨S131072, .i32⟩ : BufTy).Contents (Elt F) → (⟨S131072, .i1⟩ : BufTy).Contents (Elt F)),
    StableHlo.nullary main_c_697 (constantI S_ 32 150#32),
    StableHlo.unary main_c_697 main_v2283 (broadcastInDim S131072 ![] bcast_S_S131072 : (⟨S_, .i32⟩ : BufTy).Contents (Elt F) → (⟨S131072, .i32⟩ : BufTy).Contents (Elt F)),
    StableHlo.binary main_v2252 main_v2283 main_v2284 (addi : (⟨S131072, .i32⟩ : BufTy).Contents (Elt F) → (⟨S131072, .i32⟩ : BufTy).Contents (Elt F) → (⟨S131072, .i32⟩ : BufTy).Contents (Elt F)),
    StableHlo.ternary main_v2282 main_v2284 main_v2252 main_v2285 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_698 (constantI S_ 32 0#32),
    StableHlo.unary main_c_698 main_v2286 (broadcastInDim S131072 ![] bcast_S_S131072 : (⟨S_, .i32⟩ : BufTy).Contents (Elt F) → (⟨S131072, .i32⟩ : BufTy).Contents (Elt F)),
    StableHlo.binary main_v2244 main_v2286 main_v2287 (cmpi .slt : (⟨S131072, .i32⟩ : BufTy).Contents (Elt F) → (⟨S131072, .i32⟩ : BufTy).Contents (Elt F) → (⟨S131072, .i1⟩ : BufTy).Contents (Elt F)),
    StableHlo.nullary main_c_699 (constantI S_ 32 256#32),
    StableHlo.unary main_c_699 main_v2288 (broadcastInDim S131072 ![] bcast_S_S131072 : (⟨S_, .i32⟩ : BufTy).Contents (Elt F) → (⟨S131072, .i32⟩ : BufTy).Contents (Elt F)),
    StableHlo.binary main_v2244 main_v2288 main_v2289 (addi : (⟨S131072, .i32⟩ : BufTy).Contents (Elt F) → (⟨S131072, .i32⟩ : BufTy).Contents (Elt F) → (⟨S131072, .i32⟩ : BufTy).Contents (Elt F)),
    StableHlo.ternary main_v2287 main_v2289 main_v2244 main_v2290 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2285 main_v2291 (broadcastInDim S131072x1 ![0] bcast_S131072_S131072x1_0 : (⟨S131072, .i32⟩ : BufTy).Contents (Elt F) → (⟨S131072x1, .i32⟩ : BufTy).Contents (Elt F)),
    StableHlo.unary main_v2290 main_v2292 (broadcastInDim S131072x1 ![0] bcast_S131072_S131072x1_0 : (⟨S131072, .i32⟩ : BufTy).Contents (Elt F) → (⟨S131072x1, .i32⟩ : BufTy).Contents (Elt F)),
    StableHlo.binary main_v2291 main_v2292 main_v2293 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg19 main_v2293 main_v2294 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_c_700 (constantI S_ 32 0#32),
    StableHlo.unary main_c_700 main_v2295 (broadcastInDim S131072 ![] bcast_S_S131072 : (⟨S_, .i32⟩ : BufTy).Contents (Elt F) → (⟨S131072, .i32⟩ : BufTy).Contents (Elt F)),
    StableHlo.binary main_v2252 main_v2295 main_v2296 (cmpi .slt : (⟨S131072, .i32⟩ : BufTy).Contents (Elt F) → (⟨S131072, .i32⟩ : BufTy).Contents (Elt F) → (⟨S131072, .i1⟩ : BufTy).Contents (Elt F)) ]
theorem w49_eq (c : Dev nD) : main_part49 (F := F) c = seq w49 := rfl
theorem w49_sub : (w49 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub ..⟩
theorem w49_fresh : (w49 : List (HloOp τ sig (Elt F))).Forall fun op => op.fresh = ∅ := by
  simp only [List.Forall]; repeat' constructor
set_option maxHeartbeats 4000000 in
theorem w49_chain : Chain 3323 (w49 : List (HloOp τ sig (Elt F))) :=
  Chain.cons (stepAt_nullary 3323 _ _ rfl) <|
  Chain.cons (stepAt_nullary 3324 _ _ rfl) <|
  Chain.cons (stepAt_unary 3325 _ _ _ rfl (by decide)) <|
  Chain.cons (stepAt_unary 3326 _ _ _ rfl (by decide)) <|
  Chain.cons (stepAt_binary 3327 _ _ _ _ rfl (by decide) (by decide)) <|
  Chain.cons (stepAt_unary 3328 _ _ _ rfl (by decide)) <|
  Chain.cons (stepAt_unary 3329 _ _ _ rfl (by decide)) <|
  Chain.cons (stepAt_binary 3330 _ _ _ _ rfl (by decide) (by decide)) <|
  Chain.cons (stepAt_nullary 3331 _ _ rfl) <|
  Chain.cons (stepAt_unary 3332 _ _ _ rfl (by decide)) <|
  Chain.cons (stepAt_binary 3333 _ _ _ _ rfl (by decide) (by decide)) <|
  Chain.cons (stepAt_nullary 3334 _ _ rfl) <|
  Chain.cons (stepAt_unary 3335 _ _ _ rfl (by decide)) <|
  Chain.cons (stepAt_binary 3336 _ _ _ _ rfl (by decide) (by decide)) <|
  Chain.cons (stepAt_ternary 3337 _ _ _ _ _ rfl (by decide) (by decide) (by decide)) <|
  Chain.cons (stepAt_nullary 3338 _ _ rfl) <|
  Chain.cons (stepAt_unary 3339 _ _ _ rfl (by decide)) <|
  Chain.cons (stepAt_binary 3340 _ _ _ _ rfl (by decide) (by decide)) <|
  Chain.cons (stepAt_nullary 3341 _ _ rfl) <|
  Chain.cons (stepAt_unary 3342 _ _ _ rfl (by decide)) <|
  Chain.cons (stepAt_binary 3343 _ _ _ _ rfl (by decide) (by decide)) <|
  Chain.cons (stepAt_ternary 3344 _ _ _ _ _ rfl (by decide) (by decide) (by decide)) <|
  Chain.cons (stepAt_unary 3345 _ _ _ rfl (by decide)) <|
  Chain.cons (stepAt_unary 3346 _ _ _ rfl (by decide)) <|
  Chain.cons (stepAt_binary 3347 _ _ _ _ rfl (by decide) (by decide)) <|
  Chain.cons (stepAt_binary 3348 _ _ _ _ rfl (by decide) (by decide)) <|
  Chain.cons (stepAt_nullary 3349 _ _ rfl) <|
  Chain.cons (stepAt_unary 3350 _ _ _ rfl (by decide)) <|
  Chain.cons (stepAt_binary 3351 _ _ _ _ rfl (by decide) (by decide)) <|
  Chain.cons (stepAt_nullary 3352 _ _ rfl) <|
  Chain.cons (stepAt_unary 3353 _ _ _ rfl (by decide)) <|
  Chain.cons (stepAt_binary 3354 _ _ _ _ rfl (by decide) (by decide)) <|
  Chain.cons (stepAt_ternary 3355 _ _ _ _ _ rfl (by decide) (by decide) (by decide)) <|
  Chain.cons (stepAt_nullary 3356 _ _ rfl) <|
  Chain.cons (stepAt_unary 3357 _ _ _ rfl (by decide)) <|
  Chain.cons (stepAt_binary 3358 _ _ _ _ rfl (by decide) (by decide)) <|
  Chain.cons (stepAt_nullary 3359 _ _ rfl) <|
  Chain.cons (stepAt_unary 3360 _ _ _ rfl (by decide)) <|
  Chain.cons (stepAt_binary 3361 _ _ _ _ rfl (by decide) (by decide)) <|
  Chain.cons (stepAt_ternary 3362 _ _ _ _ _ rfl (by decide) (by decide) (by decide)) <|
  Chain.cons (stepAt_unary 3363 _ _ _ rfl (by decide)) <|
  Chain.cons (stepAt_unary 3364 _ _ _ rfl (by decide)) <|
  Chain.cons (stepAt_binary 3365 _ _ _ _ rfl (by decide) (by decide)) <|
  Chain.cons (stepAt_binary 3366 _ _ _ _ rfl (by decide) (by decide)) <|
  Chain.cons (stepAt_nullary 3367 _ _ rfl) <|
  Chain.cons (stepAt_unary 3368 _ _ _ rfl (by decide)) <|
  Chain.cons (stepAt_binary 3369 _ _ _ _ rfl (by decide) (by decide)) <|
  Chain.cons (stepAt_nullary 3370 _ _ rfl) <|
  Chain.cons (stepAt_unary 3371 _ _ _ rfl (by decide)) <|
  Chain.cons (stepAt_binary 3372 _ _ _ _ rfl (by decide) (by decide)) <|
  Chain.cons (stepAt_ternary 3373 _ _ _ _ _ rfl (by decide) (by decide) (by decide)) <|
  Chain.cons (stepAt_nullary 3374 _ _ rfl) <|
  Chain.cons (stepAt_unary 3375 _ _ _ rfl (by decide)) <|
  Chain.cons (stepAt_binary 3376 _ _ _ _ rfl (by decide) (by decide)) <|
  Chain.cons (stepAt_nullary 3377 _ _ rfl) <|
  Chain.cons (stepAt_unary 3378 _ _ _ rfl (by decide)) <|
  Chain.cons (stepAt_binary 3379 _ _ _ _ rfl (by decide) (by decide)) <|
  Chain.cons (stepAt_ternary 3380 _ _ _ _ _ rfl (by decide) (by decide) (by decide)) <|
  Chain.cons (stepAt_unary 3381 _ _ _ rfl (by decide)) <|
  Chain.cons (stepAt_unary 3382 _ _ _ rfl (by decide)) <|
  Chain.cons (stepAt_binary 3383 _ _ _ _ rfl (by decide) (by decide)) <|
  Chain.cons (stepAt_binary 3384 _ _ _ _ rfl (by decide) (by decide)) <|
  Chain.cons (stepAt_nullary 3385 _ _ rfl) <|
  Chain.cons (stepAt_unary 3386 _ _ _ rfl (by decide)) <|
  Chain.cons (stepAt_binary 3387 _ _ _ _ rfl (by decide) (by decide)) <|
  Chain.nil
theorem w49_length : (w49 : List (HloOp τ sig (Elt F))).length = 65 := rfl

/-- Window 50 of @main: 60 operations, writing buffers 3388 … 3447. -/
abbrev w50 : List (HloOp τ sig (Elt F)) :=
  [ StableHlo.nullary main_c_701 (constantI S_ 32 150#32),
    StableHlo.unary main_c_701 main_v2297 (broadcastInDim S131072 ![] bcast_S_S131072 : (⟨S_, .i32⟩ : BufTy).Contents (Elt F) → (⟨S131072, .i32⟩ : BufTy).Contents (Elt F)),
    StableHlo.binary main_v2252 main_v2297 main_v2298 (addi : (⟨S131072, .i32⟩ : BufTy).Contents (Elt F) → (⟨S131072, .i32⟩ : BufTy).Contents (Elt F) → (⟨S131072, .i32⟩ : BufTy).Contents (Elt F)),
    StableHlo.ternary main_v2296 main_v2298 main_v2252 main_v2299 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_702 (constantI S_ 32 0#32),
    StableHlo.unary main_c_702 main_v2300 (broadcastInDim S131072 ![] bcast_S_S131072 : (⟨S_, .i32⟩ : BufTy).Contents (Elt F) → (⟨S131072, .i32⟩ : BufTy).Contents (Elt F)),
    StableHlo.binary main_v2247 main_v2300 main_v2301 (cmpi .slt : (⟨S131072, .i32⟩ : BufTy).Contents (Elt F) → (⟨S131072, .i32⟩ : BufTy).Contents (Elt F) → (⟨S131072, .i1⟩ : BufTy).Contents (Elt F)),
    StableHlo.nullary main_c_703 (constantI S_ 32 256#32),
    StableHlo.unary main_c_703 main_v2302 (broadcastInDim S131072 ![] bcast_S_S131072 : (⟨S_, .i32⟩ : BufTy).Contents (Elt F) → (⟨S131072, .i32⟩ : BufTy).Contents (Elt F)),
    StableHlo.binary main_v2247 main_v2302 main_v2303 (addi : (⟨S131072, .i32⟩ : BufTy).Contents (Elt F) → (⟨S131072, .i32⟩ : BufTy).Contents (Elt F) → (⟨S131072, .i32⟩ : BufTy).Contents (Elt F)),
    StableHlo.ternary main_v2301 main_v2303 main_v2247 main_v2304 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2299 main_v2305 (broadcastInDim S131072x1 ![0] bcast_S131072_S131072x1_0 : (⟨S131072, .i32⟩ : BufTy).Contents (Elt F) → (⟨S131072x1, .i32⟩ : BufTy).Contents (Elt F)),
    StableHlo.unary main_v2304 main_v2306 (broadcastInDim S131072x1 ![0] bcast_S131072_S131072x1_0 : (⟨S131072, .i32⟩ : BufTy).Contents (Elt F) → (⟨S131072x1, .i32⟩ : BufTy).Contents (Elt F)),
    StableHlo.binary main_v2305 main_v2306 main_v2307 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg19 main_v2307 main_v2308 ((fun x i => Host.gather gather_S32x150x256_S131072x2_S32x131072_0_12_n_n_12_1_3211 x i) : (⟨S32x150x256, .f32⟩ : BufTy).Contents (Elt F) → (⟨S131072x2, .i32⟩ : BufTy).Contents (Elt F) → (⟨S32x131072, .f32⟩ : BufTy).Contents (Elt F)),
    StableHlo.nullary main_cst_704 (constant S_ .f32 0x3F800000#32),
    StableHlo.unary main_cst_704 main_v2309 (broadcastInDim S131072 ![] bcast_S_S131072 : (⟨S_, .f32⟩ : BufTy).Contents (Elt F) → (⟨S131072, .f32⟩ : BufTy).Contents (Elt F)),
    StableHlo.binary main_v2309 main_v2241 main_v2310 (subf : (⟨S131072, .f32⟩ : BufTy).Contents (Elt F) → (⟨S131072, .f32⟩ : BufTy).Contents (Elt F) → (⟨S131072, .f32⟩ : BufTy).Contents (Elt F)),
    StableHlo.unary main_v2310 main_v2311 (broadcastInDim S1x131072 ![1] bcast_S131072_S1x131072_1 : (⟨S131072, .f32⟩ : BufTy).Contents (Elt F) → (⟨S1x131072, .f32⟩ : BufTy).Contents (Elt F)),
    StableHlo.unary main_v2311 main_v2312 (broadcastInDim S32x131072 ![0, 1] bcast_S1x131072_S32x131072_0_1 : (⟨S1x131072, .f32⟩ : BufTy).Contents (Elt F) → (⟨S32x131072, .f32⟩ : BufTy).Contents (Elt F)),
    StableHlo.binary main_v2266 main_v2312 main_v2313 (mulf : (⟨S32x131072, .f32⟩ : BufTy).Contents (Elt F) → (⟨S32x131072, .f32⟩ : BufTy).Contents (Elt F) → (⟨S32x131072, .f32⟩ : BufTy).Contents (Elt F)),
    StableHlo.nullary main_cst_705 (constant S_ .f32 0x3F800000#32),
    StableHlo.unary main_cst_705 main_v2314 (broadcastInDim S131072 ![] bcast_S_S131072 : (⟨S_, .f32⟩ : BufTy).Contents (Elt F) → (⟨S131072, .f32⟩ : BufTy).Contents (Elt F)),
    StableHlo.binary main_v2314 main_v2242 main_v2315 (subf : (⟨S131072, .f32⟩ : BufTy).Contents (Elt F) → (⟨S131072, .f32⟩ : BufTy).Contents (Elt F) → (⟨S131072, .f32⟩ : BufTy).Contents (Elt F)),
    StableHlo.unary main_v2315 main_v2316 (broadcastInDim S1x131072 ![1] bcast_S131072_S1x131072_1 : (⟨S131072, .f32⟩ : BufTy).Contents (Elt F) → (⟨S1x131072, .f32⟩ : BufTy).Contents (Elt F)),
    StableHlo.unary main_v2316 main_v2317 (broadcastInDim S32x131072 ![0, 1] bcast_S1x131072_S32x131072_0_1 : (⟨S1x131072, .f32⟩ : BufTy).Contents (Elt F) → (⟨S32x131072, .f32⟩ : BufTy).Contents (Elt F)),
    StableHlo.binary main_v2313 main_v2317 main_v2318 (mulf : (⟨S32x131072, .f32⟩ : BufTy).Contents (Elt F) → (⟨S32x131072, .f32⟩ : BufTy).Contents (Elt F) → (⟨S32x131072, .f32⟩ : BufTy).Contents (Elt F)),
    StableHlo.unary main_v2241 main_v2319 (broadcastInDim S1x131072 ![1] bcast_S131072_S1x131072_1 : (⟨S131072, .f32⟩ : BufTy).Contents (Elt F) → (⟨S1x131072, .f32⟩ : BufTy).Contents (Elt F)),
    StableHlo.unary main_v2319 main_v2320 (broadcastInDim S32x131072 ![0, 1] bcast_S1x131072_S32x131072_0_1 : (⟨S1x131072, .f32⟩ : BufTy).Contents (Elt F) → (⟨S32x131072, .f32⟩ : BufTy).Contents (Elt F)),
    StableHlo.binary main_v2280 main_v2320 main_v2321 (mulf : (⟨S32x131072, .f32⟩ : BufTy).Contents (Elt F) → (⟨S32x131072, .f32⟩ : BufTy).Contents (Elt F) → (⟨S32x131072, .f32⟩ : BufTy).Contents (Elt F)),
    StableHlo.nullary main_cst_706 (constant S_ .f32 0x3F800000#32),
    StableHlo.unary main_cst_706 main_v2322 (broadcastInDim S131072 ![] bcast_S_S131072 : (⟨S_, .f32⟩ : BufTy).Contents (Elt F) → (⟨S131072, .f32⟩ : BufTy).Contents (Elt F)),
    StableHlo.binary main_v2322 main_v2242 main_v2323 (subf : (⟨S131072, .f32⟩ : BufTy).Contents (Elt F) → (⟨S131072, .f32⟩ : BufTy).Contents (Elt F) → (⟨S131072, .f32⟩ : BufTy).Contents (Elt F)),
    StableHlo.unary main_v2323 main_v2324 (broadcastInDim S1x131072 ![1] bcast_S131072_S1x131072_1 : (⟨S131072, .f32⟩ : BufTy).Contents (Elt F) → (⟨S1x131072, .f32⟩ : BufTy).Contents (Elt F)),
    StableHlo.unary main_v2324 main_v2325 (broadcastInDim S32x131072 ![0, 1] bcast_S1x131072_S32x131072_0_1 : (⟨S1x131072, .f32⟩ : BufTy).Contents (Elt F) → (⟨S32x131072, .f32⟩ : BufTy).Contents (Elt F)),
    StableHlo.binary main_v2321 main_v2325 main_v2326 (mulf : (⟨S32x131072, .f32⟩ : BufTy).Contents (Elt F) → (⟨S32x131072, .f32⟩ : BufTy).Contents (Elt F) → (⟨S32x131072, .f32⟩ : BufTy).Contents (Elt F)),
    StableHlo.binary main_v2318 main_v2326 main_v2327 (addf : (⟨S32x131072, .f32⟩ : BufTy).Contents (Elt F) → (⟨S32x131072, .f32⟩ : BufTy).Contents (Elt F) → (⟨S32x131072, .f32⟩ : BufTy).Contents (Elt F)),
    StableHlo.nullary main_cst_707 (constant S_ .f32 0x3F800000#32),
    StableHlo.unary main_cst_707 main_v2328 (broadcastInDim S131072 ![] bcast_S_S131072 : (⟨S_, .f32⟩ : BufTy).Contents (Elt F) → (⟨S131072, .f32⟩ : BufTy).Contents (Elt F)),
    StableHlo.binary main_v2328 main_v2241 main_v2329 (subf : (⟨S131072, .f32⟩ : BufTy).Contents (Elt F) → (⟨S131072, .f32⟩ : BufTy).Contents (Elt F) → (⟨S131072, .f32⟩ : BufTy).Contents (Elt F)),
    StableHlo.unary main_v2329 main_v2330 (broadcastInDim S1x131072 ![1] bcast_S131072_S1x131072_1 : (⟨S131072, .f32⟩ : BufTy).Contents (Elt F) → (⟨S1x131072, .f32⟩ : BufTy).Contents (Elt F)),
    StableHlo.unary main_v2330 main_v2331 (broadcastInDim S32x131072 ![0, 1] bcast_S1x131072_S32x131072_0_1 : (⟨S1x131072, .f32⟩ : BufTy).Contents (Elt F) → (⟨S32x131072, .f32⟩ : BufTy).Contents (Elt F)),
    StableHlo.binary main_v2294 main_v2331 main_v2332 (mulf : (⟨S32x131072, .f32⟩ : BufTy).Contents (Elt F) → (⟨S32x131072, .f32⟩ : BufTy).Contents (Elt F) → (⟨S32x131072, .f32⟩ : BufTy).Contents (Elt F)),
    StableHlo.unary main_v2242 main_v2333 (broadcastInDim S1x131072 ![1] bcast_S131072_S1x131072_1 : (⟨S131072, .f32⟩ : BufTy).Contents (Elt F) → (⟨S1x131072, .f32⟩ : BufTy).Contents (Elt F)),
    StableHlo.unary main_v2333 main_v2334 (broadcastInDim S32x131072 ![0, 1] bcast_S1x131072_S32x131072_0_1 : (⟨S1x131072, .f32⟩ : BufTy).Contents (Elt F) → (⟨S32x131072, .f32⟩ : BufTy).Contents (Elt F)),
    StableHlo.binary main_v2332 main_v2334 main_v2335 (mulf : (⟨S32x131072, .f32⟩ : BufTy).Contents (Elt F) → (⟨S32x131072, .f32⟩ : BufTy).Contents (Elt F) → (⟨S32x131072, .f32⟩ : BufTy).Contents (Elt F)),
    StableHlo.binary main_v2327 main_v2335 main_v2336 (addf : (⟨S32x131072, .f32⟩ : BufTy).Contents (Elt F) → (⟨S32x131072, .f32⟩ : BufTy).Contents (Elt F) → (⟨S32x131072, .f32⟩ : BufTy).Contents (Elt F)),
    StableHlo.unary main_v2241 main_v2337 (broadcastInDim S1x131072 ![1] bcast_S131072_S1x131072_1 : (⟨S131072, .f32⟩ : BufTy).Contents (Elt F) → (⟨S1x131072, .f32⟩ : BufTy).Contents (Elt F)),
    StableHlo.unary main_v2337 main_v2338 (broadcastInDim S32x131072 ![0, 1] bcast_S1x131072_S32x131072_0_1 : (⟨S1x131072, .f32⟩ : BufTy).Contents (Elt F) → (⟨S32x131072, .f32⟩ : BufTy).Contents (Elt F)),
    StableHlo.binary main_v2308 main_v2338 main_v2339 (mulf : (⟨S32x131072, .f32⟩ : BufTy).Contents (Elt F) → (⟨S32x131072, .f32⟩ : BufTy).Contents (Elt F) → (⟨S32x131072, .f32⟩ : BufTy).Contents (Elt F)),
    StableHlo.unary main_v2242 main_v2340 (broadcastInDim S1x131072 ![1] bcast_S131072_S1x131072_1 : (⟨S131072, .f32⟩ : BufTy).Contents (Elt F) → (⟨S1x131072, .f32⟩ : BufTy).Contents (Elt F)),
    StableHlo.unary main_v2340 main_v2341 (broadcastInDim S32x131072 ![0, 1] bcast_S1x131072_S32x131072_0_1 : (⟨S1x131072, .f32⟩ : BufTy).Contents (Elt F) → (⟨S32x131072, .f32⟩ : BufTy).Contents (Elt F)),
    StableHlo.binary main_v2339 main_v2341 main_v2342 (mulf : (⟨S32x131072, .f32⟩ : BufTy).Contents (Elt F) → (⟨S32x131072, .f32⟩ : BufTy).Contents (Elt F) → (⟨S32x131072, .f32⟩ : BufTy).Contents (Elt F)),
    StableHlo.binary main_v2336 main_v2342 main_v2343 (addf : (⟨S32x131072, .f32⟩ : BufTy).Contents (Elt F) → (⟨S32x131072, .f32⟩ : BufTy).Contents (Elt F) → (⟨S32x131072, .f32⟩ : BufTy).Contents (Elt F)),
    StableHlo.unary main_v2343 main_v2344 ((transpose S131072x32 [1, 0] · transposes_S32x131072_S131072x32_1_0) : (⟨S32x131072, .f32⟩ : BufTy).Contents (Elt F) → (⟨S131072x32, .f32⟩ : BufTy).Contents (Elt F)),
    StableHlo.binary main_v2215 main_v2344 main_v2345 (mulf : (⟨S131072x32, .f32⟩ : BufTy).Contents (Elt F) → (⟨S131072x32, .f32⟩ : BufTy).Contents (Elt F) → (⟨S131072x32, .f32⟩ : BufTy).Contents (Elt F)),
    StableHlo.nullary main_c_708 (constantI S_ 32 0#32),
    StableHlo.unary main_c_708 main_v2346 (broadcastInDim S2 ![] bcast_S_S2 : (⟨S_, .i32⟩ : BufTy).Contents (Elt F) → (⟨S2, .i32⟩ : BufTy).Contents (Elt F)),
    StableHlo.binary main_c_17 main_v2346 main_v2347 (cmpi .slt : (⟨S2, .i32⟩ : BufTy).Contents (Elt F) → (⟨S2, .i32⟩ : BufTy).Contents (Elt F) → (⟨S2, .i1⟩ : BufTy).Contents (Elt F)),
    StableHlo.nullary main_c_709 (constantI S_ 32 4#32) ]
theorem w50_eq (c : Dev nD) : main_part50 (F := F) c = seq w50 := rfl
theorem w50_sub : (w50 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub ..⟩
theorem w50_fresh : (w50 : List (HloOp τ sig (Elt F))).Forall fun op => op.fresh = ∅ := by
  simp only [List.Forall]; repeat' constructor
set_option maxHeartbeats 4000000 in
theorem w50_chain : Chain 3388 (w50 : List (HloOp τ sig (Elt F))) :=
  Chain.cons (stepAt_nullary 3388 _ _ rfl) <|
  Chain.cons (stepAt_unary 3389 _ _ _ rfl (by decide)) <|
  Chain.cons (stepAt_binary 3390 _ _ _ _ rfl (by decide) (by decide)) <|
  Chain.cons (stepAt_ternary 3391 _ _ _ _ _ rfl (by decide) (by decide) (by decide)) <|
  Chain.cons (stepAt_nullary 3392 _ _ rfl) <|
  Chain.cons (stepAt_unary 3393 _ _ _ rfl (by decide)) <|
  Chain.cons (stepAt_binary 3394 _ _ _ _ rfl (by decide) (by decide)) <|
  Chain.cons (stepAt_nullary 3395 _ _ rfl) <|
  Chain.cons (stepAt_unary 3396 _ _ _ rfl (by decide)) <|
  Chain.cons (stepAt_binary 3397 _ _ _ _ rfl (by decide) (by decide)) <|
  Chain.cons (stepAt_ternary 3398 _ _ _ _ _ rfl (by decide) (by decide) (by decide)) <|
  Chain.cons (stepAt_unary 3399 _ _ _ rfl (by decide)) <|
  Chain.cons (stepAt_unary 3400 _ _ _ rfl (by decide)) <|
  Chain.cons (stepAt_binary 3401 _ _ _ _ rfl (by decide) (by decide)) <|
  Chain.cons (stepAt_binary 3402 _ _ _ _ rfl (by decide) (by decide)) <|
  Chain.cons (stepAt_nullary 3403 _ _ rfl) <|
  Chain.cons (stepAt_unary 3404 _ _ _ rfl (by decide)) <|
  Chain.cons (stepAt_binary 3405 _ _ _ _ rfl (by decide) (by decide)) <|
  Chain.cons (stepAt_unary 3406 _ _ _ rfl (by decide)) <|
  Chain.cons (stepAt_unary 3407 _ _ _ rfl (by decide)) <|
  Chain.cons (stepAt_binary 3408 _ _ _ _ rfl (by decide) (by decide)) <|
  Chain.cons (stepAt_nullary 3409 _ _ rfl) <|
  Chain.cons (stepAt_unary 3410 _ _ _ rfl (by decide)) <|
  Chain.cons (stepAt_binary 3411 _ _ _ _ rfl (by decide) (by decide)) <|
  Chain.cons (stepAt_unary 3412 _ _ _ rfl (by decide)) <|
  Chain.cons (stepAt_unary 3413 _ _ _ rfl (by decide)) <|
  Chain.cons (stepAt_binary 3414 _ _ _ _ rfl (by decide) (by decide)) <|
  Chain.cons (stepAt_unary 3415 _ _ _ rfl (by decide)) <|
  Chain.cons (stepAt_unary 3416 _ _ _ rfl (by decide)) <|
  Chain.cons (stepAt_binary 3417 _ _ _ _ rfl (by decide) (by decide)) <|
  Chain.cons (stepAt_nullary 3418 _ _ rfl) <|
  Chain.cons (stepAt_unary 3419 _ _ _ rfl (by decide)) <|
  Chain.cons (stepAt_binary 3420 _ _ _ _ rfl (by decide) (by decide)) <|
  Chain.cons (stepAt_unary 3421 _ _ _ rfl (by decide)) <|
  Chain.cons (stepAt_unary 3422 _ _ _ rfl (by decide)) <|
  Chain.cons (stepAt_binary 3423 _ _ _ _ rfl (by decide) (by decide)) <|
  Chain.cons (stepAt_binary 3424 _ _ _ _ rfl (by decide) (by decide)) <|
  Chain.cons (stepAt_nullary 3425 _ _ rfl) <|
  Chain.cons (stepAt_unary 3426 _ _ _ rfl (by decide)) <|
  Chain.cons (stepAt_binary 3427 _ _ _ _ rfl (by decide) (by decide)) <|
  Chain.cons (stepAt_unary 3428 _ _ _ rfl (by decide)) <|
  Chain.cons (stepAt_unary 3429 _ _ _ rfl (by decide)) <|
  Chain.cons (stepAt_binary 3430 _ _ _ _ rfl (by decide) (by decide)) <|
  Chain.cons (stepAt_unary 3431 _ _ _ rfl (by decide)) <|
  Chain.cons (stepAt_unary 3432 _ _ _ rfl (by decide)) <|
  Chain.cons (stepAt_binary 3433 _ _ _ _ rfl (by decide) (by decide)) <|
  Chain.cons (stepAt_binary 3434 _ _ _ _ rfl (by decide) (by decide)) <|
  Chain.cons (stepAt_unary 3435 _ _ _ rfl (by decide)) <|
  Chain.cons (stepAt_unary 3436 _ _ _ rfl (by decide)) <|
  Chain.cons (stepAt_binary 3437 _ _ _ _ rfl (by decide) (by decide)) <|
  Chain.cons (stepAt_unary 3438 _ _ _ rfl (by decide)) <|
  Chain.cons (stepAt_unary 3439 _ _ _ rfl (by decide)) <|
  Chain.cons (stepAt_binary 3440 _ _ _ _ rfl (by decide) (by decide)) <|
  Chain.cons (stepAt_binary 3441 _ _ _ _ rfl (by decide) (by decide)) <|
  Chain.cons (stepAt_unary 3442 _ _ _ rfl (by decide)) <|
  Chain.cons (stepAt_binary 3443 _ _ _ _ rfl (by decide) (by decide)) <|
  Chain.cons (stepAt_nullary 3444 _ _ rfl) <|
  Chain.cons (stepAt_unary 3445 _ _ _ rfl (by decide)) <|
  Chain.cons (stepAt_binary 3446 _ _ _ _ rfl (by decide) (by decide)) <|
  Chain.cons (stepAt_nullary 3447 _ _ rfl) <|
  Chain.nil
theorem w50_length : (w50 : List (HloOp τ sig (Elt F))).length = 60 := rfl

/-- Window 51 of @main: 80 operations, writing buffers 3448 … 3527. -/
abbrev w51 : List (HloOp τ sig (Elt F)) :=
  [ StableHlo.unary main_c_709 main_v2348 (broadcastInDim S2 ![] bcast_S_S2 : (⟨S_, .i32⟩ : BufTy).Contents (Elt F) → (⟨S2, .i32⟩ : BufTy).Contents (Elt F)),
    StableHlo.binary main_c_17 main_v2348 main_v2349 (addi : (⟨S2, .i32⟩ : BufTy).Contents (Elt F) → (⟨S2, .i32⟩ : BufTy).Contents (Elt F) → (⟨S2, .i32⟩ : BufTy).Contents (Elt F)),
    StableHlo.ternary main_v2347 main_v2349 main_c_17 main_v2350 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2350 main_v2351 (broadcastInDim S2x1 ![0] bcast_S2_S2x1_0 : (⟨S2, .i32⟩ : BufTy).Contents (Elt F) → (⟨S2x1, .i32⟩ : BufTy).Contents (Elt F)),
    StableHlo.binary main_v8 main_v2351 main_v2352 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2352 main_v2353 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2353 main_v2354 rfl shapeCasts_S131072x1_S131072,
    StableHlo.nullary main_cst_710 (constant S_ .f32 0x3F800000#32),
    StableHlo.unary main_cst_710 main_v2355 (broadcastInDim S131072 ![] bcast_S_S131072 : (⟨S_, .f32⟩ : BufTy).Contents (Elt F) → (⟨S131072, .f32⟩ : BufTy).Contents (Elt F)),
    StableHlo.binary main_v2354 main_v2355 main_v2356 (addf : (⟨S131072, .f32⟩ : BufTy).Contents (Elt F) → (⟨S131072, .f32⟩ : BufTy).Contents (Elt F) → (⟨S131072, .f32⟩ : BufTy).Contents (Elt F)),
    StableHlo.nullary main_cst_711 (constant S_ .f32 0x3F000000#32),
    StableHlo.unary main_cst_711 main_v2357 (broadcastInDim S131072 ![] bcast_S_S131072 : (⟨S_, .f32⟩ : BufTy).Contents (Elt F) → (⟨S131072, .f32⟩ : BufTy).Contents (Elt F)),
    StableHlo.binary main_v2356 main_v2357 main_v2358 (mulf : (⟨S131072, .f32⟩ : BufTy).Contents (Elt F) → (⟨S131072, .f32⟩ : BufTy).Contents (Elt F) → (⟨S131072, .f32⟩ : BufTy).Contents (Elt F)),
    StableHlo.nullary main_cst_712 (constant S_ .f32 0x43FF8000#32),
    StableHlo.unary main_cst_712 main_v2359 (broadcastInDim S131072 ![] bcast_S_S131072 : (⟨S_, .f32⟩ : BufTy).Contents (Elt F) → (⟨S131072, .f32⟩ : BufTy).Contents (Elt F)),
    StableHlo.binary main_v2358 main_v2359 main_v2360 (mulf : (⟨S131072, .f32⟩ : BufTy).Contents (Elt F) → (⟨S131072, .f32⟩ : BufTy).Contents (Elt F) → (⟨S131072, .f32⟩ : BufTy).Contents (Elt F)),
    StableHlo.unary main_v2352 main_v2361 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2361 main_v2362 rfl shapeCasts_S131072x1_S131072,
    StableHlo.nullary main_cst_713 (constant S_ .f32 0x3F800000#32),
    StableHlo.unary main_cst_713 main_v2363 (broadcastInDim S131072 ![] bcast_S_S131072 : (⟨S_, .f32⟩ : BufTy).Contents (Elt F) → (⟨S131072, .f32⟩ : BufTy).Contents (Elt F)),
    StableHlo.binary main_v2362 main_v2363 main_v2364 (addf : (⟨S131072, .f32⟩ : BufTy).Contents (Elt F) → (⟨S131072, .f32⟩ : BufTy).Contents (Elt F) → (⟨S131072, .f32⟩ : BufTy).Contents (Elt F)),
    StableHlo.nullary main_cst_714 (constant S_ .f32 0x3F000000#32),
    StableHlo.unary main_cst_714 main_v2365 (broadcastInDim S131072 ![] bcast_S_S131072 : (⟨S_, .f32⟩ : BufTy).Contents (Elt F) → (⟨S131072, .f32⟩ : BufTy).Contents (Elt F)),
    StableHlo.binary main_v2364 main_v2365 main_v2366 (mulf : (⟨S131072, .f32⟩ : BufTy).Contents (Elt F) → (⟨S131072, .f32⟩ : BufTy).Contents (Elt F) → (⟨S131072, .f32⟩ : BufTy).Contents (Elt F)),
    StableHlo.nullary main_cst_715 (constant S_ .f32 0x43FF8000#32),
    StableHlo.unary main_cst_715 main_v2367 (broadcastInDim S131072 ![] bcast_S_S131072 : (⟨S_, .f32⟩ : BufTy).Contents (Elt F) → (⟨S131072, .f32⟩ : BufTy).Contents (Elt F)),
    StableHlo.binary main_v2366 main_v2367 main_v2368 (mulf : (⟨S131072, .f32⟩ : BufTy).Contents (Elt F) → (⟨S131072, .f32⟩ : BufTy).Contents (Elt F) → (⟨S131072, .f32⟩ : BufTy).Contents (Elt F)),
    StableHlo.unary main_v2360 main_v2369 (Host.floor : (⟨S131072, .f32⟩ : BufTy).Contents (Elt F) → (⟨S131072, .f32⟩ : BufTy).Contents (Elt F)),
    StableHlo.unary main_v2368 main_v2370 (Host.floor : (⟨S131072, .f32⟩ : BufTy).Contents (Elt F) → (⟨S131072, .f32⟩ : BufTy).Contents (Elt F)),
    StableHlo.binary main_v2360 main_v2369 main_v2371 (subf : (⟨S131072, .f32⟩ : BufTy).Contents (Elt F) → (⟨S131072, .f32⟩ : BufTy).Contents (Elt F) → (⟨S131072, .f32⟩ : BufTy).Contents (Elt F)),
    StableHlo.binary main_v2368 main_v2370 main_v2372 (subf : (⟨S131072, .f32⟩ : BufTy).Contents (Elt F) → (⟨S131072, .f32⟩ : BufTy).Contents (Elt F) → (⟨S131072, .f32⟩ : BufTy).Contents (Elt F)),
    StableHlo.unary main_v2369 main_v2373 (fptosi 32 : (⟨S131072, .f32⟩ : BufTy).Contents (Elt F) → (⟨S131072, .i32⟩ : BufTy).Contents (Elt F)),
    StableHlo.nullary main_c_716 (constantI S_ 32 0#32),
    StableHlo.nullary main_c_717 (constantI S_ 32 511#32),
    StableHlo.TRef.unary (.of main_c_716) main_call72.v0 id,
    StableHlo.TRef.unary main_call72.v0 main_call72.v1 (broadcastInDim S131072 ![] bcast_S_S131072),
    StableHlo.TRef.binary main_call72.v1 (.of main_v2373) main_call72.v2 maxsi,
    StableHlo.TRef.unary (.of main_c_717) main_call72.v3 id,
    StableHlo.TRef.unary main_call72.v3 main_call72.v4 (broadcastInDim S131072 ![] bcast_S_S131072),
    StableHlo.TRef.binary main_call72.v4 main_call72.v2 main_call72.v5 minsi,
    StableHlo.nullary main_c_718 (constantI S_ 32 1#32),
    StableHlo.unary main_c_718 main_v2375 (broadcastInDim S131072 ![] bcast_S_S131072 : (⟨S_, .i32⟩ : BufTy).Contents (Elt F) → (⟨S131072, .i32⟩ : BufTy).Contents (Elt F)),
    StableHlo.binary main_v2374 main_v2375 main_v2376 (addi : (⟨S131072, .i32⟩ : BufTy).Contents (Elt F) → (⟨S131072, .i32⟩ : BufTy).Contents (Elt F) → (⟨S131072, .i32⟩ : BufTy).Contents (Elt F)),
    StableHlo.nullary main_c_719 (constantI S_ 32 0#32),
    StableHlo.nullary main_c_720 (constantI S_ 32 511#32),
    StableHlo.TRef.unary (.of main_c_719) main_call73.v0 id,
    StableHlo.TRef.unary main_call73.v0 main_call73.v1 (broadcastInDim S131072 ![] bcast_S_S131072),
    StableHlo.TRef.binary main_call73.v1 (.of main_v2376) main_call73.v2 maxsi,
    StableHlo.TRef.unary (.of main_c_720) main_call73.v3 id,
    StableHlo.TRef.unary main_call73.v3 main_call73.v4 (broadcastInDim S131072 ![] bcast_S_S131072),
    StableHlo.TRef.binary main_call73.v4 main_call73.v2 main_call73.v5 minsi,
    StableHlo.unary main_v2370 main_v2378 (fptosi 32 : (⟨S131072, .f32⟩ : BufTy).Contents (Elt F) → (⟨S131072, .i32⟩ : BufTy).Contents (Elt F)),
    StableHlo.nullary main_c_721 (constantI S_ 32 0#32),
    StableHlo.nullary main_c_722 (constantI S_ 32 511#32),
    StableHlo.TRef.unary (.of main_c_721) main_call74.v0 id,
    StableHlo.TRef.unary main_call74.v0 main_call74.v1 (broadcastInDim S131072 ![] bcast_S_S131072),
    StableHlo.TRef.binary main_call74.v1 (.of main_v2378) main_call74.v2 maxsi,
    StableHlo.TRef.unary (.of main_c_722) main_call74.v3 id,
    StableHlo.TRef.unary main_call74.v3 main_call74.v4 (broadcastInDim S131072 ![] bcast_S_S131072),
    StableHlo.TRef.binary main_call74.v4 main_call74.v2 main_call74.v5 minsi,
    StableHlo.nullary main_c_723 (constantI S_ 32 1#32),
    StableHlo.unary main_c_723 main_v2380 (broadcastInDim S131072 ![] bcast_S_S131072 : (⟨S_, .i32⟩ : BufTy).Contents (Elt F) → (⟨S131072, .i32⟩ : BufTy).Contents (Elt F)),
    StableHlo.binary main_v2379 main_v2380 main_v2381 (addi : (⟨S131072, .i32⟩ : BufTy).Contents (Elt F) → (⟨S131072, .i32⟩ : BufTy).Contents (Elt F) → (⟨S131072, .i32⟩ : BufTy).Contents (Elt F)),
    StableHlo.nullary main_c_724 (constantI S_ 32 0#32),
    StableHlo.nullary main_c_725 (constantI S_ 32 511#32),
    StableHlo.TRef.unary (.of main_c_724) main_call75.v0 id,
    StableHlo.TRef.unary main_call75.v0 main_call75.v1 (broadcastInDim S131072 ![] bcast_S_S131072),
    StableHlo.TRef.binary main_call75.v1 (.of main_v2381) main_call75.v2 maxsi,
    StableHlo.TRef.unary (.of main_c_725) main_call75.v3 id,
    StableHlo.TRef.unary main_call75.v3 main_call75.v4 (broadcastInDim S131072 ![] bcast_S_S131072),
    StableHlo.TRef.binary main_call75.v4 main_call75.v2 main_call75.v5 minsi,
    StableHlo.nullary main_c_726 (constantI S_ 32 0#32),
    StableHlo.unary main_c_726 main_v2383 (broadcastInDim S131072 ![] bcast_S_S131072 : (⟨S_, .i32⟩ : BufTy).Contents (Elt F) → (⟨S131072, .i32⟩ : BufTy).Contents (Elt F)),
    StableHlo.binary main_v2379 main_v2383 main_v2384 (cmpi .slt : (⟨S131072, .i32⟩ : BufTy).Contents (Elt F) → (⟨S131072, .i32⟩ : BufTy).Contents (Elt F) → (⟨S131072, .i1⟩ : BufTy).Contents (Elt F)),
    StableHlo.nullary main_c_727 (constantI S_ 32 512#32),
    StableHlo.unary main_c_727 main_v2385 (broadcastInDim S131072 ![] bcast_S_S131072 : (⟨S_, .i32⟩ : BufTy).Contents (Elt F) → (⟨S131072, .i32⟩ : BufTy).Contents (Elt F)),
    StableHlo.binary main_v2379 main_v2385 main_v2386 (addi : (⟨S131072, .i32⟩ : BufTy).Contents (Elt F) → (⟨S131072, .i32⟩ : BufTy).Contents (Elt F) → (⟨S131072, .i32⟩ : BufTy).Contents (Elt F)),
    StableHlo.ternary main_v2384 main_v2386 main_v2379 main_v2387 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_728 (constantI S_ 32 0#32),
    StableHlo.unary main_c_728 main_v2388 (broadcastInDim S131072 ![] bcast_S_S131072 : (⟨S_, .i32⟩ : BufTy).Contents (Elt F) → (⟨S131072, .i32⟩ : BufTy).Contents (Elt F)) ]
theorem w51_eq (c : Dev nD) : main_part51 (F := F) c = seq w51 := rfl
theorem w51_sub : (w51 : List (HloOp τ sig (Elt F))).Forall fun op => op.bufs ⊆ tcRefs τ sig :=
  ⟨unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩
theorem w51_fresh : (w51 : List (HloOp τ sig (Elt F))).Forall fun op => op.fresh = ∅ := by
  simp only [List.Forall]; repeat' constructor
set_option maxHeartbeats 4000000 in
theorem w51_chain : Chain 3448 (w51 : List (HloOp τ sig (Elt F))) :=
  Chain.cons (stepAt_unary 3448 _ _ _ rfl (by decide)) <|
  Chain.cons (stepAt_binary 3449 _ _ _ _ rfl (by decide) (by decide)) <|
  Chain.cons (stepAt_ternary 3450 _ _ _ _ _ rfl (by decide) (by decide) (by decide)) <|
  Chain.cons (stepAt_unary 3451 _ _ _ rfl (by decide)) <|
  Chain.cons (stepAt_binary 3452 _ _ _ _ rfl (by decide) (by decide)) <|
  Chain.cons (stepAt_unary 3453 _ _ _ rfl (by decide)) <|
  Chain.cons (stepAt_reshape 3454 _ _ _ _ rfl (by decide)) <|
  Chain.cons (stepAt_nullary 3455 _ _ rfl) <|
  Chain.cons (stepAt_unary 3456 _ _ _ rfl (by decide)) <|
  Chain.cons (stepAt_binary 3457 _ _ _ _ rfl (by decide) (by decide)) <|
  Chain.cons (stepAt_nullary 3458 _ _ rfl) <|
  Chain.cons (stepAt_unary 3459 _ _ _ rfl (by decide)) <|
  Chain.cons (stepAt_binary 3460 _ _ _ _ rfl (by decide) (by decide)) <|
  Chain.cons (stepAt_nullary 3461 _ _ rfl) <|
  Chain.cons (stepAt_unary 3462 _ _ _ rfl (by decide)) <|
  Chain.cons (stepAt_binary 3463 _ _ _ _ rfl (by decide) (by decide)) <|
  Chain.cons (stepAt_unary 3464 _ _ _ rfl (by decide)) <|
  Chain.cons (stepAt_reshape 3465 _ _ _ _ rfl (by decide)) <|
  Chain.cons (stepAt_nullary 3466 _ _ rfl) <|
  Chain.cons (stepAt_unary 3467 _ _ _ rfl (by decide)) <|
  Chain.cons (stepAt_binary 3468 _ _ _ _ rfl (by decide) (by decide)) <|
  Chain.cons (stepAt_nullary 3469 _ _ rfl) <|
  Chain.cons (stepAt_unary 3470 _ _ _ rfl (by decide)) <|
  Chain.cons (stepAt_binary 3471 _ _ _ _ rfl (by decide) (by decide)) <|
  Chain.cons (stepAt_nullary 3472 _ _ rfl) <|
  Chain.cons (stepAt_unary 3473 _ _ _ rfl (by decide)) <|
  Chain.cons (stepAt_binary 3474 _ _ _ _ rfl (by decide) (by decide)) <|
  Chain.cons (stepAt_unary 3475 _ _ _ rfl (by decide)) <|
  Chain.cons (stepAt_unary 3476 _ _ _ rfl (by decide)) <|
  Chain.cons (stepAt_binary 3477 _ _ _ _ rfl (by decide) (by decide)) <|
  Chain.cons (stepAt_binary 3478 _ _ _ _ rfl (by decide) (by decide)) <|
  Chain.cons (stepAt_unary 3479 _ _ _ rfl (by decide)) <|
  Chain.cons (stepAt_nullary 3480 _ _ rfl) <|
  Chain.cons (stepAt_nullary 3481 _ _ rfl) <|
  Chain.cons (stepAt_unary 3482 _ _ _ rfl (by decide)) <|
  Chain.cons (stepAt_unary 3483 _ _ _ rfl (by decide)) <|
  Chain.cons (stepAt_binary 3484 _ _ _ _ rfl (by decide) (by decide)) <|
  Chain.cons (stepAt_unary 3485 _ _ _ rfl (by decide)) <|
  Chain.cons (stepAt_unary 3486 _ _ _ rfl (by decide)) <|
  Chain.cons (stepAt_binary 3487 _ _ _ _ rfl (by decide) (by decide)) <|
  Chain.cons (stepAt_nullary 3488 _ _ rfl) <|
  Chain.cons (stepAt_unary 3489 _ _ _ rfl (by decide)) <|
  Chain.cons (stepAt_binary 3490 _ _ _ _ rfl (by decide) (by decide)) <|
  Chain.cons (stepAt_nullary 3491 _ _ rfl) <|
  Chain.cons (stepAt_nullary 3492 _ _ rfl) <|
  Chain.cons (stepAt_unary 3493 _ _ _ rfl (by decide)) <|
  Chain.cons (stepAt_unary 3494 _ _ _ rfl (by decide)) <|
  Chain.cons (stepAt_binary 3495 _ _ _ _ rfl (by decide) (by decide)) <|
  Chain.cons (stepAt_unary 3496 _ _ _ rfl (by decide)) <|
  Chain.cons (stepAt_unary 3497 _ _ _ rfl (by decide)) <|
  Chain.cons (stepAt_binary 3498 _ _ _ _ rfl (by decide) (by decide)) <|
  Chain.cons (stepAt_unary 3499 _ _ _ rfl (by decide)) <|
  Chain.cons (stepAt_nullary 3500 _ _ rfl) <|
  Chain.cons (stepAt_nullary 3501 _ _ rfl) <|
  Chain.cons (stepAt_unary 3502 _ _ _ rfl (by decide)) <|
  Chain.cons (stepAt_unary 3503 _ _ _ rfl (by decide)) <|
  Chain.cons (stepAt_binary 3504 _ _ _ _ rfl (by decide) (by decide)) <|
  Chain.cons (stepAt_unary 3505 _ _ _ rfl (by decide)) <|
  Chain.cons (stepAt_unary 3506 _ _ _ rfl (by decide)) <|
  Chain.cons (stepAt_binary 3507 _ _ _ _ rfl (by decide) (by decide)) <|
  Chain.cons (stepAt_nullary 3508 _ _ rfl) <|
  Chain.cons (stepAt_unary 3509 _ _ _ rfl (by decide)) <|
  Chain.cons (stepAt_binary 3510 _ _ _ _ rfl (by decide) (by decide)) <|
  Chain.cons (stepAt_nullary 3511 _ _ rfl) <|
  Chain.cons (stepAt_nullary 3512 _ _ rfl) <|
  Chain.cons (stepAt_unary 3513 _ _ _ rfl (by decide)) <|
  Chain.cons (stepAt_unary 3514 _ _ _ rfl (by decide)) <|
  Chain.cons (stepAt_binary 3515 _ _ _ _ rfl (by decide) (by decide)) <|
  Chain.cons (stepAt_unary 3516 _ _ _ rfl (by decide)) <|
  Chain.cons (stepAt_unary 3517 _ _ _ rfl (by decide)) <|
  Chain.cons (stepAt_binary 3518 _ _ _ _ rfl (by decide) (by decide)) <|
  Chain.cons (stepAt_nullary 3519 _ _ rfl) <|
  Chain.cons (stepAt_unary 3520 _ _ _ rfl (by decide)) <|
  Chain.cons (stepAt_binary 3521 _ _ _ _ rfl (by decide) (by decide)) <|
  Chain.cons (stepAt_nullary 3522 _ _ rfl) <|
  Chain.cons (stepAt_unary 3523 _ _ _ rfl (by decide)) <|
  Chain.cons (stepAt_binary 3524 _ _ _ _ rfl (by decide) (by decide)) <|
  Chain.cons (stepAt_ternary 3525 _ _ _ _ _ rfl (by decide) (by decide) (by decide)) <|
  Chain.cons (stepAt_nullary 3526 _ _ rfl) <|
  Chain.cons (stepAt_unary 3527 _ _ _ rfl (by decide)) <|
  Chain.nil
theorem w51_length : (w51 : List (HloOp τ sig (Elt F))).length = 80 := rfl

/-- Window 52 of @main: 60 operations, writing buffers 3528 … 3587. -/
abbrev w52 : List (HloOp τ sig (Elt F)) :=
  [ StableHlo.binary main_v2374 main_v2388 main_v2389 (cmpi .slt : (⟨S131072, .i32⟩ : BufTy).Contents (Elt F) → (⟨S131072, .i32⟩ : BufTy).Contents (Elt F) → (⟨S131072, .i1⟩ : BufTy).Contents (Elt F)),
    StableHlo.nullary main_c_729 (constantI S_ 32 512#32),
    StableHlo.unary main_c_729 main_v2390 (broadcastInDim S131072 ![] bcast_S_S131072 : (⟨S_, .i32⟩ : BufTy).Contents (Elt F) → (⟨S131072, .i32⟩ : BufTy).Contents (Elt F)),
    StableHlo.binary main_v2374 main_v2390 main_v2391 (addi : (⟨S131072, .i32⟩ : BufTy).Contents (Elt F) → (⟨S131072, .i32⟩ : BufTy).Contents (Elt F) → (⟨S131072, .i32⟩ : BufTy).Contents (Elt F)),
    StableHlo.ternary main_v2389 main_v2391 main_v2374 main_v2392 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2387 main_v2393 (broadcastInDim S131072x1 ![0] bcast_S131072_S131072x1_0 : (⟨S131072, .i32⟩ : BufTy).Contents (Elt F) → (⟨S131072x1, .i32⟩ : BufTy).Contents (Elt F)),
    StableHlo.unary main_v2392 main_v2394 (broadcastInDim S131072x1 ![0] bcast_S131072_S131072x1_0 : (⟨S131072, .i32⟩ : BufTy).Contents (Elt F) → (⟨S131072x1, .i32⟩ : BufTy).Contents (Elt F)),
    StableHlo.binary main_v2393 main_v2394 main_v2395 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg20 main_v2395 main_v2396 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_730 (constantI S_ 32 0#32),
    StableHlo.unary main_c_730 main_v2397 (broadcastInDim S131072 ![] bcast_S_S131072 : (⟨S_, .i32⟩ : BufTy).Contents (Elt F) → (⟨S131072, .i32⟩ : BufTy).Contents (Elt F)),
    StableHlo.binary main_v2379 main_v2397 main_v2398 (cmpi .slt : (⟨S131072, .i32⟩ : BufTy).Contents (Elt F) → (⟨S131072, .i32⟩ : BufTy).Contents (Elt F) → (⟨S131072, .i1⟩ : BufTy).Contents (Elt F)),
    StableHlo.nullary main_c_731 (constantI S_ 32 512#32),
    StableHlo.unary main_c_731 main_v2399 (broadcastInDim S131072 ![] bcast_S_S131072 : (⟨S_, .i32⟩ : BufTy).Contents (Elt F) → (⟨S131072, .i32⟩ : BufTy).Contents (Elt F)),
    StableHlo.binary main_v2379 main_v2399 main_v2400 (addi : (⟨S131072, .i32⟩ : BufTy).Contents (Elt F) → (⟨S131072, .i32⟩ : BufTy).Contents (Elt F) → (⟨S131072, .i32⟩ : BufTy).Contents (Elt F)),
    StableHlo.ternary main_v2398 main_v2400 main_v2379 main_v2401 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_732 (constantI S_ 32 0#32),
    StableHlo.unary main_c_732 main_v2402 (broadcastInDim S131072 ![] bcast_S_S131072 : (⟨S_, .i32⟩ : BufTy).Contents (Elt F) → (⟨S131072, .i32⟩ : BufTy).Contents (Elt F)),
    StableHlo.binary main_v2377 main_v2402 main_v2403 (cmpi .slt : (⟨S131072, .i32⟩ : BufTy).Contents (Elt F) → (⟨S131072, .i32⟩ : BufTy).Contents (Elt F) → (⟨S131072, .i1⟩ : BufTy).Contents (Elt F)),
    StableHlo.nullary main_c_733 (constantI S_ 32 512#32),
    StableHlo.unary main_c_733 main_v2404 (broadcastInDim S131072 ![] bcast_S_S131072 : (⟨S_, .i32⟩ : BufTy).Contents (Elt F) → (⟨S131072, .i32⟩ : BufTy).Contents (Elt F)),
    StableHlo.binary main_v2377 main_v2404 main_v2405 (addi : (⟨S131072, .i32⟩ : BufTy).Contents (Elt F) → (⟨S131072, .i32⟩ : BufTy).Contents (Elt F) → (⟨S131072, .i32⟩ : BufTy).Contents (Elt F)),
    StableHlo.ternary main_v2403 main_v2405 main_v2377 main_v2406 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2401 main_v2407 (broadcastInDim S131072x1 ![0] bcast_S131072_S131072x1_0 : (⟨S131072, .i32⟩ : BufTy).Contents (Elt F) → (⟨S131072x1, .i32⟩ : BufTy).Contents (Elt F)),
    StableHlo.unary main_v2406 main_v2408 (broadcastInDim S131072x1 ![0] bcast_S131072_S131072x1_0 : (⟨S131072, .i32⟩ : BufTy).Contents (Elt F) → (⟨S131072x1, .i32⟩ : BufTy).Contents (Elt F)),
    StableHlo.binary main_v2407 main_v2408 main_v2409 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg20 main_v2409 main_v2410 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_734 (constantI S_ 32 0#32),
    StableHlo.unary main_c_734 main_v2411 (broadcastInDim S131072 ![] bcast_S_S131072 : (⟨S_, .i32⟩ : BufTy).Contents (Elt F) → (⟨S131072, .i32⟩ : BufTy).Contents (Elt F)),
    StableHlo.binary main_v2382 main_v2411 main_v2412 (cmpi .slt : (⟨S131072, .i32⟩ : BufTy).Contents (Elt F) → (⟨S131072, .i32⟩ : BufTy).Contents (Elt F) → (⟨S131072, .i1⟩ : BufTy).Contents (Elt F)),
    StableHlo.nullary main_c_735 (constantI S_ 32 512#32),
    StableHlo.unary main_c_735 main_v2413 (broadcastInDim S131072 ![] bcast_S_S131072 : (⟨S_, .i32⟩ : BufTy).Contents (Elt F) → (⟨S131072, .i32⟩ : BufTy).Contents (Elt F)),
    StableHlo.binary main_v2382 main_v2413 main_v2414 (addi : (⟨S131072, .i32⟩ : BufTy).Contents (Elt F) → (⟨S131072, .i32⟩ : BufTy).Contents (Elt F) → (⟨S131072, .i32⟩ : BufTy).Contents (Elt F)),
    StableHlo.ternary main_v2412 main_v2414 main_v2382 main_v2415 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_736 (constantI S_ 32 0#32),
    StableHlo.unary main_c_736 main_v2416 (broadcastInDim S131072 ![] bcast_S_S131072 : (⟨S_, .i32⟩ : BufTy).Contents (Elt F) → (⟨S131072, .i32⟩ : BufTy).Contents (Elt F)),
    StableHlo.binary main_v2374 main_v2416 main_v2417 (cmpi .slt : (⟨S131072, .i32⟩ : BufTy).Contents (Elt F) → (⟨S131072, .i32⟩ : BufTy).Contents (Elt F) → (⟨S131072, .i1⟩ : BufTy).Contents (Elt F)),
    StableHlo.nullary main_c_737 (constantI S_ 32 512#32),
    StableHlo.unary main_c_737 main_v2418 (broadcastInDim S131072 ![] bcast_S_S131072 : (⟨S_, .i32⟩ : BufTy).Contents (Elt F) → (⟨S131072, .i32⟩ : BufTy).Contents (Elt F)),
    StableHlo.binary main_v2374 main_v2418 main_v2419 (addi : (⟨S131072, .i32⟩ : BufTy).Contents (Elt F) → (⟨S131072, .i32⟩ : BufTy).Contents (Elt F) → (⟨S131072, .i32⟩ : BufTy).Contents (Elt F)),
    StableHlo.ternary main_v2417 main_v2419 main_v2374 main_v2420 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2415 main_v2421 (broadcastInDim S131072x1 ![0] bcast_S131072_S131072x1_0 : (⟨S131072, .i32⟩ : BufTy).Contents (Elt F) → (⟨S131072x1, .i32⟩ : BufTy).Contents (Elt F)),
    StableHlo.unary main_v2420 main_v2422 (broadcastInDim S131072x1 ![0] bcast_S131072_S131072x1_0 : (⟨S131072, .i32⟩ : BufTy).Contents (Elt F) → (⟨S131072x1, .i32⟩ : BufTy).Contents (Elt F)),
    StableHlo.binary main_v2421 main_v2422 main_v2423 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg20 main_v2423 main_v2424 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_738 (constantI S_ 32 0#32),
    StableHlo.unary main_c_738 main_v2425 (broadcastInDim S131072 ![] bcast_S_S131072 : (⟨S_, .i32⟩ : BufTy).Contents (Elt F) → (⟨S131072, .i32⟩ : BufTy).Contents (Elt F)),
    StableHlo.binary main_v2382 main_v2425 main_v2426 (cmpi .slt : (⟨S131072, .i32⟩ : BufTy).Contents (Elt F) → (⟨S131072, .i32⟩ : BufTy).Contents (Elt F) → (⟨S131072, .i1⟩ : BufTy).Contents (Elt F)),
    StableHlo.nullary main_c_739 (constantI S_ 32 512#32),
    StableHlo.unary main_c_739 main_v2427 (broadcastInDim S131072 ![] bcast_S_S131072 : (⟨S_, .i32⟩ : BufTy).Contents (Elt F) → (⟨S131072, .i32⟩ : BufTy).Contents (Elt F)),
    StableHlo.binary main_v2382 main_v2427 main_v2428 (addi : (⟨S131072, .i32⟩ : BufTy).Contents (Elt F) → (⟨S131072, .i32⟩ : BufTy).Contents (Elt F) → (⟨S131072, .i32⟩ : BufTy).Contents (Elt F)),
    StableHlo.ternary main_v2426 main_v2428 main_v2382 main_v2429 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_740 (constantI S_ 32 0#32),
    StableHlo.unary main_c_740 main_v2430 (broadcastInDim S131072 ![] bcast_S_S131072 : (⟨S_, .i32⟩ : BufTy).Contents (Elt F) → (⟨S131072, .i32⟩ : BufTy).Contents (Elt F)),
    StableHlo.binary main_v2377 main_v2430 main_v2431 (cmpi .slt : (⟨S131072, .i32⟩ : BufTy).Contents (Elt F) → (⟨S131072, .i32⟩ : BufTy).Contents (Elt F) → (⟨S131072, .i1⟩ : BufTy).Contents (Elt F)),
    StableHlo.nullary main_c_741 (constantI S_ 32 512#32),
    StableHlo.unary main_c_741 main_v2432 (broadcastInDim S131072 ![] bcast_S_S131072 : (⟨S_, .i32⟩ : BufTy).Contents (Elt F) → (⟨S131072, .i32⟩ : BufTy).Contents (Elt F)),
    StableHlo.binary main_v2377 main_v2432 main_v2433 (addi : (⟨S131072, .i32⟩ : BufTy).Contents (Elt F) → (⟨S131072, .i32⟩ : BufTy).Contents (Elt F) → (⟨S131072, .i32⟩ : BufTy).Contents (Elt F)),
    StableHlo.ternary main_v2431 main_v2433 main_v2377 main_v2434 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2429 main_v2435 (broadcastInDim S131072x1 ![0] bcast_S131072_S131072x1_0 : (⟨S131072, .i32⟩ : BufTy).Contents (Elt F) → (⟨S131072x1, .i32⟩ : BufTy).Contents (Elt F)) ]
theorem w52_eq (c : Dev nD) : main_part52 (F := F) c = seq w52 := rfl
theorem w52_sub : (w52 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
theorem w52_fresh : (w52 : List (HloOp τ sig (Elt F))).Forall fun op => op.fresh = ∅ := by
  simp only [List.Forall]; repeat' constructor
set_option maxHeartbeats 4000000 in
theorem w52_chain : Chain 3528 (w52 : List (HloOp τ sig (Elt F))) :=
  Chain.cons (stepAt_binary 3528 _ _ _ _ rfl (by decide) (by decide)) <|
  Chain.cons (stepAt_nullary 3529 _ _ rfl) <|
  Chain.cons (stepAt_unary 3530 _ _ _ rfl (by decide)) <|
  Chain.cons (stepAt_binary 3531 _ _ _ _ rfl (by decide) (by decide)) <|
  Chain.cons (stepAt_ternary 3532 _ _ _ _ _ rfl (by decide) (by decide) (by decide)) <|
  Chain.cons (stepAt_unary 3533 _ _ _ rfl (by decide)) <|
  Chain.cons (stepAt_unary 3534 _ _ _ rfl (by decide)) <|
  Chain.cons (stepAt_binary 3535 _ _ _ _ rfl (by decide) (by decide)) <|
  Chain.cons (stepAt_binary 3536 _ _ _ _ rfl (by decide) (by decide)) <|
  Chain.cons (stepAt_nullary 3537 _ _ rfl) <|
  Chain.cons (stepAt_unary 3538 _ _ _ rfl (by decide)) <|
  Chain.cons (stepAt_binary 3539 _ _ _ _ rfl (by decide) (by decide)) <|
  Chain.cons (stepAt_nullary 3540 _ _ rfl) <|
  Chain.cons (stepAt_unary 3541 _ _ _ rfl (by decide)) <|
  Chain.cons (stepAt_binary 3542 _ _ _ _ rfl (by decide) (by decide)) <|
  Chain.cons (stepAt_ternary 3543 _ _ _ _ _ rfl (by decide) (by decide) (by decide)) <|
  Chain.cons (stepAt_nullary 3544 _ _ rfl) <|
  Chain.cons (stepAt_unary 3545 _ _ _ rfl (by decide)) <|
  Chain.cons (stepAt_binary 3546 _ _ _ _ rfl (by decide) (by decide)) <|
  Chain.cons (stepAt_nullary 3547 _ _ rfl) <|
  Chain.cons (stepAt_unary 3548 _ _ _ rfl (by decide)) <|
  Chain.cons (stepAt_binary 3549 _ _ _ _ rfl (by decide) (by decide)) <|
  Chain.cons (stepAt_ternary 3550 _ _ _ _ _ rfl (by decide) (by decide) (by decide)) <|
  Chain.cons (stepAt_unary 3551 _ _ _ rfl (by decide)) <|
  Chain.cons (stepAt_unary 3552 _ _ _ rfl (by decide)) <|
  Chain.cons (stepAt_binary 3553 _ _ _ _ rfl (by decide) (by decide)) <|
  Chain.cons (stepAt_binary 3554 _ _ _ _ rfl (by decide) (by decide)) <|
  Chain.cons (stepAt_nullary 3555 _ _ rfl) <|
  Chain.cons (stepAt_unary 3556 _ _ _ rfl (by decide)) <|
  Chain.cons (stepAt_binary 3557 _ _ _ _ rfl (by decide) (by decide)) <|
  Chain.cons (stepAt_nullary 3558 _ _ rfl) <|
  Chain.cons (stepAt_unary 3559 _ _ _ rfl (by decide)) <|
  Chain.cons (stepAt_binary 3560 _ _ _ _ rfl (by decide) (by decide)) <|
  Chain.cons (stepAt_ternary 3561 _ _ _ _ _ rfl (by decide) (by decide) (by decide)) <|
  Chain.cons (stepAt_nullary 3562 _ _ rfl) <|
  Chain.cons (stepAt_unary 3563 _ _ _ rfl (by decide)) <|
  Chain.cons (stepAt_binary 3564 _ _ _ _ rfl (by decide) (by decide)) <|
  Chain.cons (stepAt_nullary 3565 _ _ rfl) <|
  Chain.cons (stepAt_unary 3566 _ _ _ rfl (by decide)) <|
  Chain.cons (stepAt_binary 3567 _ _ _ _ rfl (by decide) (by decide)) <|
  Chain.cons (stepAt_ternary 3568 _ _ _ _ _ rfl (by decide) (by decide) (by decide)) <|
  Chain.cons (stepAt_unary 3569 _ _ _ rfl (by decide)) <|
  Chain.cons (stepAt_unary 3570 _ _ _ rfl (by decide)) <|
  Chain.cons (stepAt_binary 3571 _ _ _ _ rfl (by decide) (by decide)) <|
  Chain.cons (stepAt_binary 3572 _ _ _ _ rfl (by decide) (by decide)) <|
  Chain.cons (stepAt_nullary 3573 _ _ rfl) <|
  Chain.cons (stepAt_unary 3574 _ _ _ rfl (by decide)) <|
  Chain.cons (stepAt_binary 3575 _ _ _ _ rfl (by decide) (by decide)) <|
  Chain.cons (stepAt_nullary 3576 _ _ rfl) <|
  Chain.cons (stepAt_unary 3577 _ _ _ rfl (by decide)) <|
  Chain.cons (stepAt_binary 3578 _ _ _ _ rfl (by decide) (by decide)) <|
  Chain.cons (stepAt_ternary 3579 _ _ _ _ _ rfl (by decide) (by decide) (by decide)) <|
  Chain.cons (stepAt_nullary 3580 _ _ rfl) <|
  Chain.cons (stepAt_unary 3581 _ _ _ rfl (by decide)) <|
  Chain.cons (stepAt_binary 3582 _ _ _ _ rfl (by decide) (by decide)) <|
  Chain.cons (stepAt_nullary 3583 _ _ rfl) <|
  Chain.cons (stepAt_unary 3584 _ _ _ rfl (by decide)) <|
  Chain.cons (stepAt_binary 3585 _ _ _ _ rfl (by decide) (by decide)) <|
  Chain.cons (stepAt_ternary 3586 _ _ _ _ _ rfl (by decide) (by decide) (by decide)) <|
  Chain.cons (stepAt_unary 3587 _ _ _ rfl (by decide)) <|
  Chain.nil
theorem w52_length : (w52 : List (HloOp τ sig (Elt F))).length = 60 := rfl

/-- Window 53 of @main: 60 operations, writing buffers 3588 … 3647. -/
abbrev w53 : List (HloOp τ sig (Elt F)) :=
  [ StableHlo.unary main_v2434 main_v2436 (broadcastInDim S131072x1 ![0] bcast_S131072_S131072x1_0 : (⟨S131072, .i32⟩ : BufTy).Contents (Elt F) → (⟨S131072x1, .i32⟩ : BufTy).Contents (Elt F)),
    StableHlo.binary main_v2435 main_v2436 main_v2437 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg20 main_v2437 main_v2438 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_cst_742 (constant S_ .f32 0x3F800000#32),
    StableHlo.unary main_cst_742 main_v2439 (broadcastInDim S131072 ![] bcast_S_S131072 : (⟨S_, .f32⟩ : BufTy).Contents (Elt F) → (⟨S131072, .f32⟩ : BufTy).Contents (Elt F)),
    StableHlo.binary main_v2439 main_v2371 main_v2440 (subf : (⟨S131072, .f32⟩ : BufTy).Contents (Elt F) → (⟨S131072, .f32⟩ : BufTy).Contents (Elt F) → (⟨S131072, .f32⟩ : BufTy).Contents (Elt F)),
    StableHlo.unary main_v2440 main_v2441 (broadcastInDim S1x131072 ![1] bcast_S131072_S1x131072_1 : (⟨S131072, .f32⟩ : BufTy).Contents (Elt F) → (⟨S1x131072, .f32⟩ : BufTy).Contents (Elt F)),
    StableHlo.unary main_v2441 main_v2442 (broadcastInDim S32x131072 ![0, 1] bcast_S1x131072_S32x131072_0_1 : (⟨S1x131072, .f32⟩ : BufTy).Contents (Elt F) → (⟨S32x131072, .f32⟩ : BufTy).Contents (Elt F)),
    StableHlo.binary main_v2396 main_v2442 main_v2443 (mulf : (⟨S32x131072, .f32⟩ : BufTy).Contents (Elt F) → (⟨S32x131072, .f32⟩ : BufTy).Contents (Elt F) → (⟨S32x131072, .f32⟩ : BufTy).Contents (Elt F)),
    StableHlo.nullary main_cst_743 (constant S_ .f32 0x3F800000#32),
    StableHlo.unary main_cst_743 main_v2444 (broadcastInDim S131072 ![] bcast_S_S131072 : (⟨S_, .f32⟩ : BufTy).Contents (Elt F) → (⟨S131072, .f32⟩ : BufTy).Contents (Elt F)),
    StableHlo.binary main_v2444 main_v2372 main_v2445 (subf : (⟨S131072, .f32⟩ : BufTy).Contents (Elt F) → (⟨S131072, .f32⟩ : BufTy).Contents (Elt F) → (⟨S131072, .f32⟩ : BufTy).Contents (Elt F)),
    StableHlo.unary main_v2445 main_v2446 (broadcastInDim S1x131072 ![1] bcast_S131072_S1x131072_1 : (⟨S131072, .f32⟩ : BufTy).Contents (Elt F) → (⟨S1x131072, .f32⟩ : BufTy).Contents (Elt F)),
    StableHlo.unary main_v2446 main_v2447 (broadcastInDim S32x131072 ![0, 1] bcast_S1x131072_S32x131072_0_1 : (⟨S1x131072, .f32⟩ : BufTy).Contents (Elt F) → (⟨S32x131072, .f32⟩ : BufTy).Contents (Elt F)),
    StableHlo.binary main_v2443 main_v2447 main_v2448 (mulf : (⟨S32x131072, .f32⟩ : BufTy).Contents (Elt F) → (⟨S32x131072, .f32⟩ : BufTy).Contents (Elt F) → (⟨S32x131072, .f32⟩ : BufTy).Contents (Elt F)),
    StableHlo.unary main_v2371 main_v2449 (broadcastInDim S1x131072 ![1] bcast_S131072_S1x131072_1 : (⟨S131072, .f32⟩ : BufTy).Contents (Elt F) → (⟨S1x131072, .f32⟩ : BufTy).Contents (Elt F)),
    StableHlo.unary main_v2449 main_v2450 (broadcastInDim S32x131072 ![0, 1] bcast_S1x131072_S32x131072_0_1 : (⟨S1x131072, .f32⟩ : BufTy).Contents (Elt F) → (⟨S32x131072, .f32⟩ : BufTy).Contents (Elt F)),
    StableHlo.binary main_v2410 main_v2450 main_v2451 (mulf : (⟨S32x131072, .f32⟩ : BufTy).Contents (Elt F) → (⟨S32x131072, .f32⟩ : BufTy).Contents (Elt F) → (⟨S32x131072, .f32⟩ : BufTy).Contents (Elt F)),
    StableHlo.nullary main_cst_744 (constant S_ .f32 0x3F800000#32),
    StableHlo.unary main_cst_744 main_v2452 (broadcastInDim S131072 ![] bcast_S_S131072 : (⟨S_, .f32⟩ : BufTy).Contents (Elt F) → (⟨S131072, .f32⟩ : BufTy).Contents (Elt F)),
    StableHlo.binary main_v2452 main_v2372 main_v2453 (subf : (⟨S131072, .f32⟩ : BufTy).Contents (Elt F) → (⟨S131072, .f32⟩ : BufTy).Contents (Elt F) → (⟨S131072, .f32⟩ : BufTy).Contents (Elt F)),
    StableHlo.unary main_v2453 main_v2454 (broadcastInDim S1x131072 ![1] bcast_S131072_S1x131072_1 : (⟨S131072, .f32⟩ : BufTy).Contents (Elt F) → (⟨S1x131072, .f32⟩ : BufTy).Contents (Elt F)),
    StableHlo.unary main_v2454 main_v2455 (broadcastInDim S32x131072 ![0, 1] bcast_S1x131072_S32x131072_0_1 : (⟨S1x131072, .f32⟩ : BufTy).Contents (Elt F) → (⟨S32x131072, .f32⟩ : BufTy).Contents (Elt F)),
    StableHlo.binary main_v2451 main_v2455 main_v2456 (mulf : (⟨S32x131072, .f32⟩ : BufTy).Contents (Elt F) → (⟨S32x131072, .f32⟩ : BufTy).Contents (Elt F) → (⟨S32x131072, .f32⟩ : BufTy).Contents (Elt F)),
    StableHlo.binary main_v2448 main_v2456 main_v2457 (addf : (⟨S32x131072, .f32⟩ : BufTy).Contents (Elt F) → (⟨S32x131072, .f32⟩ : BufTy).Contents (Elt F) → (⟨S32x131072, .f32⟩ : BufTy).Contents (Elt F)),
    StableHlo.nullary main_cst_745 (constant S_ .f32 0x3F800000#32),
    StableHlo.unary main_cst_745 main_v2458 (broadcastInDim S131072 ![] bcast_S_S131072 : (⟨S_, .f32⟩ : BufTy).Contents (Elt F) → (⟨S131072, .f32⟩ : BufTy).Contents (Elt F)),
    StableHlo.binary main_v2458 main_v2371 main_v2459 (subf : (⟨S131072, .f32⟩ : BufTy).Contents (Elt F) → (⟨S131072, .f32⟩ : BufTy).Contents (Elt F) → (⟨S131072, .f32⟩ : BufTy).Contents (Elt F)),
    StableHlo.unary main_v2459 main_v2460 (broadcastInDim S1x131072 ![1] bcast_S131072_S1x131072_1 : (⟨S131072, .f32⟩ : BufTy).Contents (Elt F) → (⟨S1x131072, .f32⟩ : BufTy).Contents (Elt F)),
    StableHlo.unary main_v2460 main_v2461 (broadcastInDim S32x131072 ![0, 1] bcast_S1x131072_S32x131072_0_1 : (⟨S1x131072, .f32⟩ : BufTy).Contents (Elt F) → (⟨S32x131072, .f32⟩ : BufTy).Contents (Elt F)),
    StableHlo.binary main_v2424 main_v2461 main_v2462 (mulf : (⟨S32x131072, .f32⟩ : BufTy).Contents (Elt F) → (⟨S32x131072, .f32⟩ : BufTy).Contents (Elt F) → (⟨S32x131072, .f32⟩ : BufTy).Contents (Elt F)),
    StableHlo.unary main_v2372 main_v2463 (broadcastInDim S1x131072 ![1] bcast_S131072_S1x131072_1 : (⟨S131072, .f32⟩ : BufTy).Contents (Elt F) → (⟨S1x131072, .f32⟩ : BufTy).Contents (Elt F)),
    StableHlo.unary main_v2463 main_v2464 (broadcastInDim S32x131072 ![0, 1] bcast_S1x131072_S32x131072_0_1 : (⟨S1x131072, .f32⟩ : BufTy).Contents (Elt F) → (⟨S32x131072, .f32⟩ : BufTy).Contents (Elt F)),
    StableHlo.binary main_v2462 main_v2464 main_v2465 (mulf : (⟨S32x131072, .f32⟩ : BufTy).Contents (Elt F) → (⟨S32x131072, .f32⟩ : BufTy).Contents (Elt F) → (⟨S32x131072, .f32⟩ : BufTy).Contents (Elt F)),
    StableHlo.binary main_v2457 main_v2465 main_v2466 (addf : (⟨S32x131072, .f32⟩ : BufTy).Contents (Elt F) → (⟨S32x131072, .f32⟩ : BufTy).Contents (Elt F) → (⟨S32x131072, .f32⟩ : BufTy).Contents (Elt F)),
    StableHlo.unary main_v2371 main_v2467 (broadcastInDim S1x131072 ![1] bcast_S131072_S1x131072_1 : (⟨S131072, .f32⟩ : BufTy).Contents (Elt F) → (⟨S1x131072, .f32⟩ : BufTy).Contents (Elt F)),
    StableHlo.unary main_v2467 main_v2468 (broadcastInDim S32x131072 ![0, 1] bcast_S1x131072_S32x131072_0_1 : (⟨S1x131072, .f32⟩ : BufTy).Contents (Elt F) → (⟨S32x131072, .f32⟩ : BufTy).Contents (Elt F)),
    StableHlo.binary main_v2438 main_v2468 main_v2469 (mulf : (⟨S32x131072, .f32⟩ : BufTy).Contents (Elt F) → (⟨S32x131072, .f32⟩ : BufTy).Contents (Elt F) → (⟨S32x131072, .f32⟩ : BufTy).Contents (Elt F)),
    StableHlo.unary main_v2372 main_v2470 (broadcastInDim S1x131072 ![1] bcast_S131072_S1x131072_1 : (⟨S131072, .f32⟩ : BufTy).Contents (Elt F) → (⟨S1x131072, .f32⟩ : BufTy).Contents (Elt F)),
    StableHlo.unary main_v2470 main_v2471 (broadcastInDim S32x131072 ![0, 1] bcast_S1x131072_S32x131072_0_1 : (⟨S1x131072, .f32⟩ : BufTy).Contents (Elt F) → (⟨S32x131072, .f32⟩ : BufTy).Contents (Elt F)),
    StableHlo.binary main_v2469 main_v2471 main_v2472 (mulf : (⟨S32x131072, .f32⟩ : BufTy).Contents (Elt F) → (⟨S32x131072, .f32⟩ : BufTy).Contents (Elt F) → (⟨S32x131072, .f32⟩ : BufTy).Contents (Elt F)),
    StableHlo.binary main_v2466 main_v2472 main_v2473 (addf : (⟨S32x131072, .f32⟩ : BufTy).Contents (Elt F) → (⟨S32x131072, .f32⟩ : BufTy).Contents (Elt F) → (⟨S32x131072, .f32⟩ : BufTy).Contents (Elt F)),
    StableHlo.unary main_v2473 main_v2474 ((transpose S131072x32 [1, 0] · transposes_S32x131072_S131072x32_1_0) : (⟨S32x131072, .f32⟩ : BufTy).Contents (Elt F) → (⟨S131072x32, .f32⟩ : BufTy).Contents (Elt F)),
    StableHlo.nullary main_c_746 (constantI S_ 32 0#32),
    StableHlo.unary main_c_746 main_v2475 (broadcastInDim S2 ![] bcast_S_S2 : (⟨S_, .i32⟩ : BufTy).Contents (Elt F) → (⟨S2, .i32⟩ : BufTy).Contents (Elt F)),
    StableHlo.binary main_c_18 main_v2475 main_v2476 (cmpi .slt : (⟨S2, .i32⟩ : BufTy).Contents (Elt F) → (⟨S2, .i32⟩ : BufTy).Contents (Elt F) → (⟨S2, .i1⟩ : BufTy).Contents (Elt F)),
    StableHlo.nullary main_c_747 (constantI S_ 32 4#32),
    StableHlo.unary main_c_747 main_v2477 (broadcastInDim S2 ![] bcast_S_S2 : (⟨S_, .i32⟩ : BufTy).Contents (Elt F) → (⟨S2, .i32⟩ : BufTy).Contents (Elt F)),
    StableHlo.binary main_c_18 main_v2477 main_v2478 (addi : (⟨S2, .i32⟩ : BufTy).Contents (Elt F) → (⟨S2, .i32⟩ : BufTy).Contents (Elt F) → (⟨S2, .i32⟩ : BufTy).Contents (Elt F)),
    StableHlo.ternary main_v2476 main_v2478 main_c_18 main_v2479 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2479 main_v2480 (broadcastInDim S2x1 ![0] bcast_S2_S2x1_0 : (⟨S2, .i32⟩ : BufTy).Contents (Elt F) → (⟨S2x1, .i32⟩ : BufTy).Contents (Elt F)),
    StableHlo.binary main_v8 main_v2480 main_v2481 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2481 main_v2482 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2482 main_v2483 rfl shapeCasts_S131072x1_S131072,
    StableHlo.nullary main_cst_748 (constant S_ .f32 0x3F800000#32),
    StableHlo.unary main_cst_748 main_v2484 (broadcastInDim S131072 ![] bcast_S_S131072 : (⟨S_, .f32⟩ : BufTy).Contents (Elt F) → (⟨S131072, .f32⟩ : BufTy).Contents (Elt F)),
    StableHlo.binary main_v2483 main_v2484 main_v2485 (addf : (⟨S131072, .f32⟩ : BufTy).Contents (Elt F) → (⟨S131072, .f32⟩ : BufTy).Contents (Elt F) → (⟨S131072, .f32⟩ : BufTy).Contents (Elt F)),
    StableHlo.nullary main_cst_749 (constant S_ .f32 0x3F000000#32),
    StableHlo.unary main_cst_749 main_v2486 (broadcastInDim S131072 ![] bcast_S_S131072 : (⟨S_, .f32⟩ : BufTy).Contents (Elt F) → (⟨S131072, .f32⟩ : BufTy).Contents (Elt F)),
    StableHlo.binary main_v2485 main_v2486 main_v2487 (mulf : (⟨S131072, .f32⟩ : BufTy).Contents (Elt F) → (⟨S131072, .f32⟩ : BufTy).Contents (Elt F) → (⟨S131072, .f32⟩ : BufTy).Contents (Elt F)) ]
theorem w53_eq (c : Dev nD) : main_part53 (F := F) c = seq w53 := rfl
theorem w53_sub : (w53 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub ..⟩
theorem w53_fresh : (w53 : List (HloOp τ sig (Elt F))).Forall fun op => op.fresh = ∅ := by
  simp only [List.Forall]; repeat' constructor
set_option maxHeartbeats 4000000 in
theorem w53_chain : Chain 3588 (w53 : List (HloOp τ sig (Elt F))) :=
  Chain.cons (stepAt_unary 3588 _ _ _ rfl (by decide)) <|
  Chain.cons (stepAt_binary 3589 _ _ _ _ rfl (by decide) (by decide)) <|
  Chain.cons (stepAt_binary 3590 _ _ _ _ rfl (by decide) (by decide)) <|
  Chain.cons (stepAt_nullary 3591 _ _ rfl) <|
  Chain.cons (stepAt_unary 3592 _ _ _ rfl (by decide)) <|
  Chain.cons (stepAt_binary 3593 _ _ _ _ rfl (by decide) (by decide)) <|
  Chain.cons (stepAt_unary 3594 _ _ _ rfl (by decide)) <|
  Chain.cons (stepAt_unary 3595 _ _ _ rfl (by decide)) <|
  Chain.cons (stepAt_binary 3596 _ _ _ _ rfl (by decide) (by decide)) <|
  Chain.cons (stepAt_nullary 3597 _ _ rfl) <|
  Chain.cons (stepAt_unary 3598 _ _ _ rfl (by decide)) <|
  Chain.cons (stepAt_binary 3599 _ _ _ _ rfl (by decide) (by decide)) <|
  Chain.cons (stepAt_unary 3600 _ _ _ rfl (by decide)) <|
  Chain.cons (stepAt_unary 3601 _ _ _ rfl (by decide)) <|
  Chain.cons (stepAt_binary 3602 _ _ _ _ rfl (by decide) (by decide)) <|
  Chain.cons (stepAt_unary 3603 _ _ _ rfl (by decide)) <|
  Chain.cons (stepAt_unary 3604 _ _ _ rfl (by decide)) <|
  Chain.cons (stepAt_binary 3605 _ _ _ _ rfl (by decide) (by decide)) <|
  Chain.cons (stepAt_nullary 3606 _ _ rfl) <|
  Chain.cons (stepAt_unary 3607 _ _ _ rfl (by decide)) <|
  Chain.cons (stepAt_binary 3608 _ _ _ _ rfl (by decide) (by decide)) <|
  Chain.cons (stepAt_unary 3609 _ _ _ rfl (by decide)) <|
  Chain.cons (stepAt_unary 3610 _ _ _ rfl (by decide)) <|
  Chain.cons (stepAt_binary 3611 _ _ _ _ rfl (by decide) (by decide)) <|
  Chain.cons (stepAt_binary 3612 _ _ _ _ rfl (by decide) (by decide)) <|
  Chain.cons (stepAt_nullary 3613 _ _ rfl) <|
  Chain.cons (stepAt_unary 3614 _ _ _ rfl (by decide)) <|
  Chain.cons (stepAt_binary 3615 _ _ _ _ rfl (by decide) (by decide)) <|
  Chain.cons (stepAt_unary 3616 _ _ _ rfl (by decide)) <|
  Chain.cons (stepAt_unary 3617 _ _ _ rfl (by decide)) <|
  Chain.cons (stepAt_binary 3618 _ _ _ _ rfl (by decide) (by decide)) <|
  Chain.cons (stepAt_unary 3619 _ _ _ rfl (by decide)) <|
  Chain.cons (stepAt_unary 3620 _ _ _ rfl (by decide)) <|
  Chain.cons (stepAt_binary 3621 _ _ _ _ rfl (by decide) (by decide)) <|
  Chain.cons (stepAt_binary 3622 _ _ _ _ rfl (by decide) (by decide)) <|
  Chain.cons (stepAt_unary 3623 _ _ _ rfl (by decide)) <|
  Chain.cons (stepAt_unary 3624 _ _ _ rfl (by decide)) <|
  Chain.cons (stepAt_binary 3625 _ _ _ _ rfl (by decide) (by decide)) <|
  Chain.cons (stepAt_unary 3626 _ _ _ rfl (by decide)) <|
  Chain.cons (stepAt_unary 3627 _ _ _ rfl (by decide)) <|
  Chain.cons (stepAt_binary 3628 _ _ _ _ rfl (by decide) (by decide)) <|
  Chain.cons (stepAt_binary 3629 _ _ _ _ rfl (by decide) (by decide)) <|
  Chain.cons (stepAt_unary 3630 _ _ _ rfl (by decide)) <|
  Chain.cons (stepAt_nullary 3631 _ _ rfl) <|
  Chain.cons (stepAt_unary 3632 _ _ _ rfl (by decide)) <|
  Chain.cons (stepAt_binary 3633 _ _ _ _ rfl (by decide) (by decide)) <|
  Chain.cons (stepAt_nullary 3634 _ _ rfl) <|
  Chain.cons (stepAt_unary 3635 _ _ _ rfl (by decide)) <|
  Chain.cons (stepAt_binary 3636 _ _ _ _ rfl (by decide) (by decide)) <|
  Chain.cons (stepAt_ternary 3637 _ _ _ _ _ rfl (by decide) (by decide) (by decide)) <|
  Chain.cons (stepAt_unary 3638 _ _ _ rfl (by decide)) <|
  Chain.cons (stepAt_binary 3639 _ _ _ _ rfl (by decide) (by decide)) <|
  Chain.cons (stepAt_unary 3640 _ _ _ rfl (by decide)) <|
  Chain.cons (stepAt_reshape 3641 _ _ _ _ rfl (by decide)) <|
  Chain.cons (stepAt_nullary 3642 _ _ rfl) <|
  Chain.cons (stepAt_unary 3643 _ _ _ rfl (by decide)) <|
  Chain.cons (stepAt_binary 3644 _ _ _ _ rfl (by decide) (by decide)) <|
  Chain.cons (stepAt_nullary 3645 _ _ rfl) <|
  Chain.cons (stepAt_unary 3646 _ _ _ rfl (by decide)) <|
  Chain.cons (stepAt_binary 3647 _ _ _ _ rfl (by decide) (by decide)) <|
  Chain.nil
theorem w53_length : (w53 : List (HloOp τ sig (Elt F))).length = 60 := rfl

/-- Window 54 of @main: 80 operations, writing buffers 3648 … 3727. -/
abbrev w54 : List (HloOp τ sig (Elt F)) :=
  [ StableHlo.nullary main_cst_750 (constant S_ .f32 0x43FF8000#32),
    StableHlo.unary main_cst_750 main_v2488 (broadcastInDim S131072 ![] bcast_S_S131072 : (⟨S_, .f32⟩ : BufTy).Contents (Elt F) → (⟨S131072, .f32⟩ : BufTy).Contents (Elt F)),
    StableHlo.binary main_v2487 main_v2488 main_v2489 (mulf : (⟨S131072, .f32⟩ : BufTy).Contents (Elt F) → (⟨S131072, .f32⟩ : BufTy).Contents (Elt F) → (⟨S131072, .f32⟩ : BufTy).Contents (Elt F)),
    StableHlo.unary main_v2481 main_v2490 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2490 main_v2491 rfl shapeCasts_S131072x1_S131072,
    StableHlo.nullary main_cst_751 (constant S_ .f32 0x3F800000#32),
    StableHlo.unary main_cst_751 main_v2492 (broadcastInDim S131072 ![] bcast_S_S131072 : (⟨S_, .f32⟩ : BufTy).Contents (Elt F) → (⟨S131072, .f32⟩ : BufTy).Contents (Elt F)),
    StableHlo.binary main_v2491 main_v2492 main_v2493 (addf : (⟨S131072, .f32⟩ : BufTy).Contents (Elt F) → (⟨S131072, .f32⟩ : BufTy).Contents (Elt F) → (⟨S131072, .f32⟩ : BufTy).Contents (Elt F)),
    StableHlo.nullary main_cst_752 (constant S_ .f32 0x3F000000#32),
    StableHlo.unary main_cst_752 main_v2494 (broadcastInDim S131072 ![] bcast_S_S131072 : (⟨S_, .f32⟩ : BufTy).Contents (Elt F) → (⟨S131072, .f32⟩ : BufTy).Contents (Elt F)),
    StableHlo.binary main_v2493 main_v2494 main_v2495 (mulf : (⟨S131072, .f32⟩ : BufTy).Contents (Elt F) → (⟨S131072, .f32⟩ : BufTy).Contents (Elt F) → (⟨S131072, .f32⟩ : BufTy).Contents (Elt F)),
    StableHlo.nullary main_cst_753 (constant S_ .f32 0x43FF8000#32),
    StableHlo.unary main_cst_753 main_v2496 (broadcastInDim S131072 ![] bcast_S_S131072 : (⟨S_, .f32⟩ : BufTy).Contents (Elt F) → (⟨S131072, .f32⟩ : BufTy).Contents (Elt F)),
    StableHlo.binary main_v2495 main_v2496 main_v2497 (mulf : (⟨S131072, .f32⟩ : BufTy).Contents (Elt F) → (⟨S131072, .f32⟩ : BufTy).Contents (Elt F) → (⟨S131072, .f32⟩ : BufTy).Contents (Elt F)),
    StableHlo.unary main_v2489 main_v2498 (Host.floor : (⟨S131072, .f32⟩ : BufTy).Contents (Elt F) → (⟨S131072, .f32⟩ : BufTy).Contents (Elt F)),
    StableHlo.unary main_v2497 main_v2499 (Host.floor : (⟨S131072, .f32⟩ : BufTy).Contents (Elt F) → (⟨S131072, .f32⟩ : BufTy).Contents (Elt F)),
    StableHlo.binary main_v2489 main_v2498 main_v2500 (subf : (⟨S131072, .f32⟩ : BufTy).Contents (Elt F) → (⟨S131072, .f32⟩ : BufTy).Contents (Elt F) → (⟨S131072, .f32⟩ : BufTy).Contents (Elt F)),
    StableHlo.binary main_v2497 main_v2499 main_v2501 (subf : (⟨S131072, .f32⟩ : BufTy).Contents (Elt F) → (⟨S131072, .f32⟩ : BufTy).Contents (Elt F) → (⟨S131072, .f32⟩ : BufTy).Contents (Elt F)),
    StableHlo.unary main_v2498 main_v2502 (fptosi 32 : (⟨S131072, .f32⟩ : BufTy).Contents (Elt F) → (⟨S131072, .i32⟩ : BufTy).Contents (Elt F)),
    StableHlo.nullary main_c_754 (constantI S_ 32 0#32),
    StableHlo.nullary main_c_755 (constantI S_ 32 511#32),
    StableHlo.TRef.unary (.of main_c_754) main_call76.v0 id,
    StableHlo.TRef.unary main_call76.v0 main_call76.v1 (broadcastInDim S131072 ![] bcast_S_S131072),
    StableHlo.TRef.binary main_call76.v1 (.of main_v2502) main_call76.v2 maxsi,
    StableHlo.TRef.unary (.of main_c_755) main_call76.v3 id,
    StableHlo.TRef.unary main_call76.v3 main_call76.v4 (broadcastInDim S131072 ![] bcast_S_S131072),
    StableHlo.TRef.binary main_call76.v4 main_call76.v2 main_call76.v5 minsi,
    StableHlo.nullary main_c_756 (constantI S_ 32 1#32),
    StableHlo.unary main_c_756 main_v2504 (broadcastInDim S131072 ![] bcast_S_S131072 : (⟨S_, .i32⟩ : BufTy).Contents (Elt F) → (⟨S131072, .i32⟩ : BufTy).Contents (Elt F)),
    StableHlo.binary main_v2503 main_v2504 main_v2505 (addi : (⟨S131072, .i32⟩ : BufTy).Contents (Elt F) → (⟨S131072, .i32⟩ : BufTy).Contents (Elt F) → (⟨S131072, .i32⟩ : BufTy).Contents (Elt F)),
    StableHlo.nullary main_c_757 (constantI S_ 32 0#32),
    StableHlo.nullary main_c_758 (constantI S_ 32 511#32),
    StableHlo.TRef.unary (.of main_c_757) main_call77.v0 id,
    StableHlo.TRef.unary main_call77.v0 main_call77.v1 (broadcastInDim S131072 ![] bcast_S_S131072),
    StableHlo.TRef.binary main_call77.v1 (.of main_v2505) main_call77.v2 maxsi,
    StableHlo.TRef.unary (.of main_c_758) main_call77.v3 id,
    StableHlo.TRef.unary main_call77.v3 main_call77.v4 (broadcastInDim S131072 ![] bcast_S_S131072),
    StableHlo.TRef.binary main_call77.v4 main_call77.v2 main_call77.v5 minsi,
    StableHlo.unary main_v2499 main_v2507 (fptosi 32 : (⟨S131072, .f32⟩ : BufTy).Contents (Elt F) → (⟨S131072, .i32⟩ : BufTy).Contents (Elt F)),
    StableHlo.nullary main_c_759 (constantI S_ 32 0#32),
    StableHlo.nullary main_c_760 (constantI S_ 32 511#32),
    StableHlo.TRef.unary (.of main_c_759) main_call78.v0 id,
    StableHlo.TRef.unary main_call78.v0 main_call78.v1 (broadcastInDim S131072 ![] bcast_S_S131072),
    StableHlo.TRef.binary main_call78.v1 (.of main_v2507) main_call78.v2 maxsi,
    StableHlo.TRef.unary (.of main_c_760) main_call78.v3 id,
    StableHlo.TRef.unary main_call78.v3 main_call78.v4 (broadcastInDim S131072 ![] bcast_S_S131072),
    StableHlo.TRef.binary main_call78.v4 main_call78.v2 main_call78.v5 minsi,
    StableHlo.nullary main_c_761 (constantI S_ 32 1#32),
    StableHlo.unary main_c_761 main_v2509 (broadcastInDim S131072 ![] bcast_S_S131072 : (⟨S_, .i32⟩ : BufTy).Contents (Elt F) → (⟨S131072, .i32⟩ : BufTy).Contents (Elt F)),
    StableHlo.binary main_v2508 main_v2509 main_v2510 (addi : (⟨S131072, .i32⟩ : BufTy).Contents (Elt F) → (⟨S131072, .i32⟩ : BufTy).Contents (Elt F) → (⟨S131072, .i32⟩ : BufTy).Contents (Elt F)),
    StableHlo.nullary main_c_762 (constantI S_ 32 0#32),
    StableHlo.nullary main_c_763 (constantI S_ 32 511#32),
    StableHlo.TRef.unary (.of main_c_762) main_call79.v0 id,
    StableHlo.TRef.unary main_call79.v0 main_call79.v1 (broadcastInDim S131072 ![] bcast_S_S131072),
    StableHlo.TRef.binary main_call79.v1 (.of main_v2510) main_call79.v2 maxsi,
    StableHlo.TRef.unary (.of main_c_763) main_call79.v3 id,
    StableHlo.TRef.unary main_call79.v3 main_call79.v4 (broadcastInDim S131072 ![] bcast_S_S131072),
    StableHlo.TRef.binary main_call79.v4 main_call79.v2 main_call79.v5 minsi,
    StableHlo.nullary main_c_764 (constantI S_ 32 0#32),
    StableHlo.unary main_c_764 main_v2512 (broadcastInDim S131072 ![] bcast_S_S131072 : (⟨S_, .i32⟩ : BufTy).Contents (Elt F) → (⟨S131072, .i32⟩ : BufTy).Contents (Elt F)),
    StableHlo.binary main_v2508 main_v2512 main_v2513 (cmpi .slt : (⟨S131072, .i32⟩ : BufTy).Contents (Elt F) → (⟨S131072, .i32⟩ : BufTy).Contents (Elt F) → (⟨S131072, .i1⟩ : BufTy).Contents (Elt F)),
    StableHlo.nullary main_c_765 (constantI S_ 32 512#32),
    StableHlo.unary main_c_765 main_v2514 (broadcastInDim S131072 ![] bcast_S_S131072 : (⟨S_, .i32⟩ : BufTy).Contents (Elt F) → (⟨S131072, .i32⟩ : BufTy).Contents (Elt F)),
    StableHlo.binary main_v2508 main_v2514 main_v2515 (addi : (⟨S131072, .i32⟩ : BufTy).Contents (Elt F) → (⟨S131072, .i32⟩ : BufTy).Contents (Elt F) → (⟨S131072, .i32⟩ : BufTy).Contents (Elt F)),
    StableHlo.ternary main_v2513 main_v2515 main_v2508 main_v2516 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_766 (constantI S_ 32 0#32),
    StableHlo.unary main_c_766 main_v2517 (broadcastInDim S131072 ![] bcast_S_S131072 : (⟨S_, .i32⟩ : BufTy).Contents (Elt F) → (⟨S131072, .i32⟩ : BufTy).Contents (Elt F)),
    StableHlo.binary main_v2503 main_v2517 main_v2518 (cmpi .slt : (⟨S131072, .i32⟩ : BufTy).Contents (Elt F) → (⟨S131072, .i32⟩ : BufTy).Contents (Elt F) → (⟨S131072, .i1⟩ : BufTy).Contents (Elt F)),
    StableHlo.nullary main_c_767 (constantI S_ 32 512#32),
    StableHlo.unary main_c_767 main_v2519 (broadcastInDim S131072 ![] bcast_S_S131072 : (⟨S_, .i32⟩ : BufTy).Contents (Elt F) → (⟨S131072, .i32⟩ : BufTy).Contents (Elt F)),
    StableHlo.binary main_v2503 main_v2519 main_v2520 (addi : (⟨S131072, .i32⟩ : BufTy).Contents (Elt F) → (⟨S131072, .i32⟩ : BufTy).Contents (Elt F) → (⟨S131072, .i32⟩ : BufTy).Contents (Elt F)),
    StableHlo.ternary main_v2518 main_v2520 main_v2503 main_v2521 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2516 main_v2522 (broadcastInDim S131072x1 ![0] bcast_S131072_S131072x1_0 : (⟨S131072, .i32⟩ : BufTy).Contents (Elt F) → (⟨S131072x1, .i32⟩ : BufTy).Contents (Elt F)),
    StableHlo.unary main_v2521 main_v2523 (broadcastInDim S131072x1 ![0] bcast_S131072_S131072x1_0 : (⟨S131072, .i32⟩ : BufTy).Contents (Elt F) → (⟨S131072x1, .i32⟩ : BufTy).Contents (Elt F)),
    StableHlo.binary main_v2522 main_v2523 main_v2524 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg21 main_v2524 main_v2525 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_768 (constantI S_ 32 0#32),
    StableHlo.unary main_c_768 main_v2526 (broadcastInDim S131072 ![] bcast_S_S131072 : (⟨S_, .i32⟩ : BufTy).Contents (Elt F) → (⟨S131072, .i32⟩ : BufTy).Contents (Elt F)),
    StableHlo.binary main_v2508 main_v2526 main_v2527 (cmpi .slt : (⟨S131072, .i32⟩ : BufTy).Contents (Elt F) → (⟨S131072, .i32⟩ : BufTy).Contents (Elt F) → (⟨S131072, .i1⟩ : BufTy).Contents (Elt F)),
    StableHlo.nullary main_c_769 (constantI S_ 32 512#32) ]
theorem w54_eq (c : Dev nD) : main_part54 (F := F) c = seq w54 := rfl
theorem w54_sub : (w54 : List (HloOp τ sig (Elt F))).Forall fun op => op.bufs ⊆ tcRefs τ sig :=
  ⟨nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub ..⟩
theorem w54_fresh : (w54 : List (HloOp τ sig (Elt F))).Forall fun op => op.fresh = ∅ := by
  simp only [List.Forall]; repeat' constructor
set_option maxHeartbeats 4000000 in
theorem w54_chain : Chain 3648 (w54 : List (HloOp τ sig (Elt F))) :=
  Chain.cons (stepAt_nullary 3648 _ _ rfl) <|
  Chain.cons (stepAt_unary 3649 _ _ _ rfl (by decide)) <|
  Chain.cons (stepAt_binary 3650 _ _ _ _ rfl (by decide) (by decide)) <|
  Chain.cons (stepAt_unary 3651 _ _ _ rfl (by decide)) <|
  Chain.cons (stepAt_reshape 3652 _ _ _ _ rfl (by decide)) <|
  Chain.cons (stepAt_nullary 3653 _ _ rfl) <|
  Chain.cons (stepAt_unary 3654 _ _ _ rfl (by decide)) <|
  Chain.cons (stepAt_binary 3655 _ _ _ _ rfl (by decide) (by decide)) <|
  Chain.cons (stepAt_nullary 3656 _ _ rfl) <|
  Chain.cons (stepAt_unary 3657 _ _ _ rfl (by decide)) <|
  Chain.cons (stepAt_binary 3658 _ _ _ _ rfl (by decide) (by decide)) <|
  Chain.cons (stepAt_nullary 3659 _ _ rfl) <|
  Chain.cons (stepAt_unary 3660 _ _ _ rfl (by decide)) <|
  Chain.cons (stepAt_binary 3661 _ _ _ _ rfl (by decide) (by decide)) <|
  Chain.cons (stepAt_unary 3662 _ _ _ rfl (by decide)) <|
  Chain.cons (stepAt_unary 3663 _ _ _ rfl (by decide)) <|
  Chain.cons (stepAt_binary 3664 _ _ _ _ rfl (by decide) (by decide)) <|
  Chain.cons (stepAt_binary 3665 _ _ _ _ rfl (by decide) (by decide)) <|
  Chain.cons (stepAt_unary 3666 _ _ _ rfl (by decide)) <|
  Chain.cons (stepAt_nullary 3667 _ _ rfl) <|
  Chain.cons (stepAt_nullary 3668 _ _ rfl) <|
  Chain.cons (stepAt_unary 3669 _ _ _ rfl (by decide)) <|
  Chain.cons (stepAt_unary 3670 _ _ _ rfl (by decide)) <|
  Chain.cons (stepAt_binary 3671 _ _ _ _ rfl (by decide) (by decide)) <|
  Chain.cons (stepAt_unary 3672 _ _ _ rfl (by decide)) <|
  Chain.cons (stepAt_unary 3673 _ _ _ rfl (by decide)) <|
  Chain.cons (stepAt_binary 3674 _ _ _ _ rfl (by decide) (by decide)) <|
  Chain.cons (stepAt_nullary 3675 _ _ rfl) <|
  Chain.cons (stepAt_unary 3676 _ _ _ rfl (by decide)) <|
  Chain.cons (stepAt_binary 3677 _ _ _ _ rfl (by decide) (by decide)) <|
  Chain.cons (stepAt_nullary 3678 _ _ rfl) <|
  Chain.cons (stepAt_nullary 3679 _ _ rfl) <|
  Chain.cons (stepAt_unary 3680 _ _ _ rfl (by decide)) <|
  Chain.cons (stepAt_unary 3681 _ _ _ rfl (by decide)) <|
  Chain.cons (stepAt_binary 3682 _ _ _ _ rfl (by decide) (by decide)) <|
  Chain.cons (stepAt_unary 3683 _ _ _ rfl (by decide)) <|
  Chain.cons (stepAt_unary 3684 _ _ _ rfl (by decide)) <|
  Chain.cons (stepAt_binary 3685 _ _ _ _ rfl (by decide) (by decide)) <|
  Chain.cons (stepAt_unary 3686 _ _ _ rfl (by decide)) <|
  Chain.cons (stepAt_nullary 3687 _ _ rfl) <|
  Chain.cons (stepAt_nullary 3688 _ _ rfl) <|
  Chain.cons (stepAt_unary 3689 _ _ _ rfl (by decide)) <|
  Chain.cons (stepAt_unary 3690 _ _ _ rfl (by decide)) <|
  Chain.cons (stepAt_binary 3691 _ _ _ _ rfl (by decide) (by decide)) <|
  Chain.cons (stepAt_unary 3692 _ _ _ rfl (by decide)) <|
  Chain.cons (stepAt_unary 3693 _ _ _ rfl (by decide)) <|
  Chain.cons (stepAt_binary 3694 _ _ _ _ rfl (by decide) (by decide)) <|
  Chain.cons (stepAt_nullary 3695 _ _ rfl) <|
  Chain.cons (stepAt_unary 3696 _ _ _ rfl (by decide)) <|
  Chain.cons (stepAt_binary 3697 _ _ _ _ rfl (by decide) (by decide)) <|
  Chain.cons (stepAt_nullary 3698 _ _ rfl) <|
  Chain.cons (stepAt_nullary 3699 _ _ rfl) <|
  Chain.cons (stepAt_unary 3700 _ _ _ rfl (by decide)) <|
  Chain.cons (stepAt_unary 3701 _ _ _ rfl (by decide)) <|
  Chain.cons (stepAt_binary 3702 _ _ _ _ rfl (by decide) (by decide)) <|
  Chain.cons (stepAt_unary 3703 _ _ _ rfl (by decide)) <|
  Chain.cons (stepAt_unary 3704 _ _ _ rfl (by decide)) <|
  Chain.cons (stepAt_binary 3705 _ _ _ _ rfl (by decide) (by decide)) <|
  Chain.cons (stepAt_nullary 3706 _ _ rfl) <|
  Chain.cons (stepAt_unary 3707 _ _ _ rfl (by decide)) <|
  Chain.cons (stepAt_binary 3708 _ _ _ _ rfl (by decide) (by decide)) <|
  Chain.cons (stepAt_nullary 3709 _ _ rfl) <|
  Chain.cons (stepAt_unary 3710 _ _ _ rfl (by decide)) <|
  Chain.cons (stepAt_binary 3711 _ _ _ _ rfl (by decide) (by decide)) <|
  Chain.cons (stepAt_ternary 3712 _ _ _ _ _ rfl (by decide) (by decide) (by decide)) <|
  Chain.cons (stepAt_nullary 3713 _ _ rfl) <|
  Chain.cons (stepAt_unary 3714 _ _ _ rfl (by decide)) <|
  Chain.cons (stepAt_binary 3715 _ _ _ _ rfl (by decide) (by decide)) <|
  Chain.cons (stepAt_nullary 3716 _ _ rfl) <|
  Chain.cons (stepAt_unary 3717 _ _ _ rfl (by decide)) <|
  Chain.cons (stepAt_binary 3718 _ _ _ _ rfl (by decide) (by decide)) <|
  Chain.cons (stepAt_ternary 3719 _ _ _ _ _ rfl (by decide) (by decide) (by decide)) <|
  Chain.cons (stepAt_unary 3720 _ _ _ rfl (by decide)) <|
  Chain.cons (stepAt_unary 3721 _ _ _ rfl (by decide)) <|
  Chain.cons (stepAt_binary 3722 _ _ _ _ rfl (by decide) (by decide)) <|
  Chain.cons (stepAt_binary 3723 _ _ _ _ rfl (by decide) (by decide)) <|
  Chain.cons (stepAt_nullary 3724 _ _ rfl) <|
  Chain.cons (stepAt_unary 3725 _ _ _ rfl (by decide)) <|
  Chain.cons (stepAt_binary 3726 _ _ _ _ rfl (by decide) (by decide)) <|
  Chain.cons (stepAt_nullary 3727 _ _ rfl) <|
  Chain.nil
theorem w54_length : (w54 : List (HloOp τ sig (Elt F))).length = 80 := rfl

/-- Window 55 of @main: 60 operations, writing buffers 3728 … 3787. -/
abbrev w55 : List (HloOp τ sig (Elt F)) :=
  [ StableHlo.unary main_c_769 main_v2528 (broadcastInDim S131072 ![] bcast_S_S131072 : (⟨S_, .i32⟩ : BufTy).Contents (Elt F) → (⟨S131072, .i32⟩ : BufTy).Contents (Elt F)),
    StableHlo.binary main_v2508 main_v2528 main_v2529 (addi : (⟨S131072, .i32⟩ : BufTy).Contents (Elt F) → (⟨S131072, .i32⟩ : BufTy).Contents (Elt F) → (⟨S131072, .i32⟩ : BufTy).Contents (Elt F)),
    StableHlo.ternary main_v2527 main_v2529 main_v2508 main_v2530 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_770 (constantI S_ 32 0#32),
    StableHlo.unary main_c_770 main_v2531 (broadcastInDim S131072 ![] bcast_S_S131072 : (⟨S_, .i32⟩ : BufTy).Contents (Elt F) → (⟨S131072, .i32⟩ : BufTy).Contents (Elt F)),
    StableHlo.binary main_v2506 main_v2531 main_v2532 (cmpi .slt : (⟨S131072, .i32⟩ : BufTy).Contents (Elt F) → (⟨S131072, .i32⟩ : BufTy).Contents (Elt F) → (⟨S131072, .i1⟩ : BufTy).Contents (Elt F)),
    StableHlo.nullary main_c_771 (constantI S_ 32 512#32),
    StableHlo.unary main_c_771 main_v2533 (broadcastInDim S131072 ![] bcast_S_S131072 : (⟨S_, .i32⟩ : BufTy).Contents (Elt F) → (⟨S131072, .i32⟩ : BufTy).Contents (Elt F)),
    StableHlo.binary main_v2506 main_v2533 main_v2534 (addi : (⟨S131072, .i32⟩ : BufTy).Contents (Elt F) → (⟨S131072, .i32⟩ : BufTy).Contents (Elt F) → (⟨S131072, .i32⟩ : BufTy).Contents (Elt F)),
    StableHlo.ternary main_v2532 main_v2534 main_v2506 main_v2535 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2530 main_v2536 (broadcastInDim S131072x1 ![0] bcast_S131072_S131072x1_0 : (⟨S131072, .i32⟩ : BufTy).Contents (Elt F) → (⟨S131072x1, .i32⟩ : BufTy).Contents (Elt F)),
    StableHlo.unary main_v2535 main_v2537 (broadcastInDim S131072x1 ![0] bcast_S131072_S131072x1_0 : (⟨S131072, .i32⟩ : BufTy).Contents (Elt F) → (⟨S131072x1, .i32⟩ : BufTy).Contents (Elt F)),
    StableHlo.binary main_v2536 main_v2537 main_v2538 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg21 main_v2538 main_v2539 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_772 (constantI S_ 32 0#32),
    StableHlo.unary main_c_772 main_v2540 (broadcastInDim S131072 ![] bcast_S_S131072 : (⟨S_, .i32⟩ : BufTy).Contents (Elt F) → (⟨S131072, .i32⟩ : BufTy).Contents (Elt F)),
    StableHlo.binary main_v2511 main_v2540 main_v2541 (cmpi .slt : (⟨S131072, .i32⟩ : BufTy).Contents (Elt F) → (⟨S131072, .i32⟩ : BufTy).Contents (Elt F) → (⟨S131072, .i1⟩ : BufTy).Contents (Elt F)),
    StableHlo.nullary main_c_773 (constantI S_ 32 512#32),
    StableHlo.unary main_c_773 main_v2542 (broadcastInDim S131072 ![] bcast_S_S131072 : (⟨S_, .i32⟩ : BufTy).Contents (Elt F) → (⟨S131072, .i32⟩ : BufTy).Contents (Elt F)),
    StableHlo.binary main_v2511 main_v2542 main_v2543 (addi : (⟨S131072, .i32⟩ : BufTy).Contents (Elt F) → (⟨S131072, .i32⟩ : BufTy).Contents (Elt F) → (⟨S131072, .i32⟩ : BufTy).Contents (Elt F)),
    StableHlo.ternary main_v2541 main_v2543 main_v2511 main_v2544 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_774 (constantI S_ 32 0#32),
    StableHlo.unary main_c_774 main_v2545 (broadcastInDim S131072 ![] bcast_S_S131072 : (⟨S_, .i32⟩ : BufTy).Contents (Elt F) → (⟨S131072, .i32⟩ : BufTy).Contents (Elt F)),
    StableHlo.binary main_v2503 main_v2545 main_v2546 (cmpi .slt : (⟨S131072, .i32⟩ : BufTy).Contents (Elt F) → (⟨S131072, .i32⟩ : BufTy).Contents (Elt F) → (⟨S131072, .i1⟩ : BufTy).Contents (Elt F)),
    StableHlo.nullary main_c_775 (constantI S_ 32 512#32),
    StableHlo.unary main_c_775 main_v2547 (broadcastInDim S131072 ![] bcast_S_S131072 : (⟨S_, .i32⟩ : BufTy).Contents (Elt F) → (⟨S131072, .i32⟩ : BufTy).Contents (Elt F)),
    StableHlo.binary main_v2503 main_v2547 main_v2548 (addi : (⟨S131072, .i32⟩ : BufTy).Contents (Elt F) → (⟨S131072, .i32⟩ : BufTy).Contents (Elt F) → (⟨S131072, .i32⟩ : BufTy).Contents (Elt F)),
    StableHlo.ternary main_v2546 main_v2548 main_v2503 main_v2549 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2544 main_v2550 (broadcastInDim S131072x1 ![0] bcast_S131072_S131072x1_0 : (⟨S131072, .i32⟩ : BufTy).Contents (Elt F) → (⟨S131072x1, .i32⟩ : BufTy).Contents (Elt F)),
    StableHlo.unary main_v2549 main_v2551 (broadcastInDim S131072x1 ![0] bcast_S131072_S131072x1_0 : (⟨S131072, .i32⟩ : BufTy).Contents (Elt F) → (⟨S131072x1, .i32⟩ : BufTy).Contents (Elt F)),
    StableHlo.binary main_v2550 main_v2551 main_v2552 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg21 main_v2552 main_v2553 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_776 (constantI S_ 32 0#32),
    StableHlo.unary main_c_776 main_v2554 (broadcastInDim S131072 ![] bcast_S_S131072 : (⟨S_, .i32⟩ : BufTy).Contents (Elt F) → (⟨S131072, .i32⟩ : BufTy).Contents (Elt F)),
    StableHlo.binary main_v2511 main_v2554 main_v2555 (cmpi .slt : (⟨S131072, .i32⟩ : BufTy).Contents (Elt F) → (⟨S131072, .i32⟩ : BufTy).Contents (Elt F) → (⟨S131072, .i1⟩ : BufTy).Contents (Elt F)),
    StableHlo.nullary main_c_777 (constantI S_ 32 512#32),
    StableHlo.unary main_c_777 main_v2556 (broadcastInDim S131072 ![] bcast_S_S131072 : (⟨S_, .i32⟩ : BufTy).Contents (Elt F) → (⟨S131072, .i32⟩ : BufTy).Contents (Elt F)),
    StableHlo.binary main_v2511 main_v2556 main_v2557 (addi : (⟨S131072, .i32⟩ : BufTy).Contents (Elt F) → (⟨S131072, .i32⟩ : BufTy).Contents (Elt F) → (⟨S131072, .i32⟩ : BufTy).Contents (Elt F)),
    StableHlo.ternary main_v2555 main_v2557 main_v2511 main_v2558 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_778 (constantI S_ 32 0#32),
    StableHlo.unary main_c_778 main_v2559 (broadcastInDim S131072 ![] bcast_S_S131072 : (⟨S_, .i32⟩ : BufTy).Contents (Elt F) → (⟨S131072, .i32⟩ : BufTy).Contents (Elt F)),
    StableHlo.binary main_v2506 main_v2559 main_v2560 (cmpi .slt : (⟨S131072, .i32⟩ : BufTy).Contents (Elt F) → (⟨S131072, .i32⟩ : BufTy).Contents (Elt F) → (⟨S131072, .i1⟩ : BufTy).Contents (Elt F)),
    StableHlo.nullary main_c_779 (constantI S_ 32 512#32),
    StableHlo.unary main_c_779 main_v2561 (broadcastInDim S131072 ![] bcast_S_S131072 : (⟨S_, .i32⟩ : BufTy).Contents (Elt F) → (⟨S131072, .i32⟩ : BufTy).Contents (Elt F)),
    StableHlo.binary main_v2506 main_v2561 main_v2562 (addi : (⟨S131072, .i32⟩ : BufTy).Contents (Elt F) → (⟨S131072, .i32⟩ : BufTy).Contents (Elt F) → (⟨S131072, .i32⟩ : BufTy).Contents (Elt F)),
    StableHlo.ternary main_v2560 main_v2562 main_v2506 main_v2563 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2558 main_v2564 (broadcastInDim S131072x1 ![0] bcast_S131072_S131072x1_0 : (⟨S131072, .i32⟩ : BufTy).Contents (Elt F) → (⟨S131072x1, .i32⟩ : BufTy).Contents (Elt F)),
    StableHlo.unary main_v2563 main_v2565 (broadcastInDim S131072x1 ![0] bcast_S131072_S131072x1_0 : (⟨S131072, .i32⟩ : BufTy).Contents (Elt F) → (⟨S131072x1, .i32⟩ : BufTy).Contents (Elt F)),
    StableHlo.binary main_v2564 main_v2565 main_v2566 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg21 main_v2566 main_v2567 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_cst_780 (constant S_ .f32 0x3F800000#32),
    StableHlo.unary main_cst_780 main_v2568 (broadcastInDim S131072 ![] bcast_S_S131072 : (⟨S_, .f32⟩ : BufTy).Contents (Elt F) → (⟨S131072, .f32⟩ : BufTy).Contents (Elt F)),
    StableHlo.binary main_v2568 main_v2500 main_v2569 (subf : (⟨S131072, .f32⟩ : BufTy).Contents (Elt F) → (⟨S131072, .f32⟩ : BufTy).Contents (Elt F) → (⟨S131072, .f32⟩ : BufTy).Contents (Elt F)),
    StableHlo.unary main_v2569 main_v2570 (broadcastInDim S1x131072 ![1] bcast_S131072_S1x131072_1 : (⟨S131072, .f32⟩ : BufTy).Contents (Elt F) → (⟨S1x131072, .f32⟩ : BufTy).Contents (Elt F)),
    StableHlo.unary main_v2570 main_v2571 (broadcastInDim S32x131072 ![0, 1] bcast_S1x131072_S32x131072_0_1 : (⟨S1x131072, .f32⟩ : BufTy).Contents (Elt F) → (⟨S32x131072, .f32⟩ : BufTy).Contents (Elt F)),
    StableHlo.binary main_v2525 main_v2571 main_v2572 (mulf : (⟨S32x131072, .f32⟩ : BufTy).Contents (Elt F) → (⟨S32x131072, .f32⟩ : BufTy).Contents (Elt F) → (⟨S32x131072, .f32⟩ : BufTy).Contents (Elt F)),
    StableHlo.nullary main_cst_781 (constant S_ .f32 0x3F800000#32),
    StableHlo.unary main_cst_781 main_v2573 (broadcastInDim S131072 ![] bcast_S_S131072 : (⟨S_, .f32⟩ : BufTy).Contents (Elt F) → (⟨S131072, .f32⟩ : BufTy).Contents (Elt F)),
    StableHlo.binary main_v2573 main_v2501 main_v2574 (subf : (⟨S131072, .f32⟩ : BufTy).Contents (Elt F) → (⟨S131072, .f32⟩ : BufTy).Contents (Elt F) → (⟨S131072, .f32⟩ : BufTy).Contents (Elt F)),
    StableHlo.unary main_v2574 main_v2575 (broadcastInDim S1x131072 ![1] bcast_S131072_S1x131072_1 : (⟨S131072, .f32⟩ : BufTy).Contents (Elt F) → (⟨S1x131072, .f32⟩ : BufTy).Contents (Elt F)) ]
theorem w55_eq (c : Dev nD) : main_part55 (F := F) c = seq w55 := rfl
theorem w55_sub : (w55 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub ..⟩
theorem w55_fresh : (w55 : List (HloOp τ sig (Elt F))).Forall fun op => op.fresh = ∅ := by
  simp only [List.Forall]; repeat' constructor
set_option maxHeartbeats 4000000 in
theorem w55_chain : Chain 3728 (w55 : List (HloOp τ sig (Elt F))) :=
  Chain.cons (stepAt_unary 3728 _ _ _ rfl (by decide)) <|
  Chain.cons (stepAt_binary 3729 _ _ _ _ rfl (by decide) (by decide)) <|
  Chain.cons (stepAt_ternary 3730 _ _ _ _ _ rfl (by decide) (by decide) (by decide)) <|
  Chain.cons (stepAt_nullary 3731 _ _ rfl) <|
  Chain.cons (stepAt_unary 3732 _ _ _ rfl (by decide)) <|
  Chain.cons (stepAt_binary 3733 _ _ _ _ rfl (by decide) (by decide)) <|
  Chain.cons (stepAt_nullary 3734 _ _ rfl) <|
  Chain.cons (stepAt_unary 3735 _ _ _ rfl (by decide)) <|
  Chain.cons (stepAt_binary 3736 _ _ _ _ rfl (by decide) (by decide)) <|
  Chain.cons (stepAt_ternary 3737 _ _ _ _ _ rfl (by decide) (by decide) (by decide)) <|
  Chain.cons (stepAt_unary 3738 _ _ _ rfl (by decide)) <|
  Chain.cons (stepAt_unary 3739 _ _ _ rfl (by decide)) <|
  Chain.cons (stepAt_binary 3740 _ _ _ _ rfl (by decide) (by decide)) <|
  Chain.cons (stepAt_binary 3741 _ _ _ _ rfl (by decide) (by decide)) <|
  Chain.cons (stepAt_nullary 3742 _ _ rfl) <|
  Chain.cons (stepAt_unary 3743 _ _ _ rfl (by decide)) <|
  Chain.cons (stepAt_binary 3744 _ _ _ _ rfl (by decide) (by decide)) <|
  Chain.cons (stepAt_nullary 3745 _ _ rfl) <|
  Chain.cons (stepAt_unary 3746 _ _ _ rfl (by decide)) <|
  Chain.cons (stepAt_binary 3747 _ _ _ _ rfl (by decide) (by decide)) <|
  Chain.cons (stepAt_ternary 3748 _ _ _ _ _ rfl (by decide) (by decide) (by decide)) <|
  Chain.cons (stepAt_nullary 3749 _ _ rfl) <|
  Chain.cons (stepAt_unary 3750 _ _ _ rfl (by decide)) <|
  Chain.cons (stepAt_binary 3751 _ _ _ _ rfl (by decide) (by decide)) <|
  Chain.cons (stepAt_nullary 3752 _ _ rfl) <|
  Chain.cons (stepAt_unary 3753 _ _ _ rfl (by decide)) <|
  Chain.cons (stepAt_binary 3754 _ _ _ _ rfl (by decide) (by decide)) <|
  Chain.cons (stepAt_ternary 3755 _ _ _ _ _ rfl (by decide) (by decide) (by decide)) <|
  Chain.cons (stepAt_unary 3756 _ _ _ rfl (by decide)) <|
  Chain.cons (stepAt_unary 3757 _ _ _ rfl (by decide)) <|
  Chain.cons (stepAt_binary 3758 _ _ _ _ rfl (by decide) (by decide)) <|
  Chain.cons (stepAt_binary 3759 _ _ _ _ rfl (by decide) (by decide)) <|
  Chain.cons (stepAt_nullary 3760 _ _ rfl) <|
  Chain.cons (stepAt_unary 3761 _ _ _ rfl (by decide)) <|
  Chain.cons (stepAt_binary 3762 _ _ _ _ rfl (by decide) (by decide)) <|
  Chain.cons (stepAt_nullary 3763 _ _ rfl) <|
  Chain.cons (stepAt_unary 3764 _ _ _ rfl (by decide)) <|
  Chain.cons (stepAt_binary 3765 _ _ _ _ rfl (by decide) (by decide)) <|
  Chain.cons (stepAt_ternary 3766 _ _ _ _ _ rfl (by decide) (by decide) (by decide)) <|
  Chain.cons (stepAt_nullary 3767 _ _ rfl) <|
  Chain.cons (stepAt_unary 3768 _ _ _ rfl (by decide)) <|
  Chain.cons (stepAt_binary 3769 _ _ _ _ rfl (by decide) (by decide)) <|
  Chain.cons (stepAt_nullary 3770 _ _ rfl) <|
  Chain.cons (stepAt_unary 3771 _ _ _ rfl (by decide)) <|
  Chain.cons (stepAt_binary 3772 _ _ _ _ rfl (by decide) (by decide)) <|
  Chain.cons (stepAt_ternary 3773 _ _ _ _ _ rfl (by decide) (by decide) (by decide)) <|
  Chain.cons (stepAt_unary 3774 _ _ _ rfl (by decide)) <|
  Chain.cons (stepAt_unary 3775 _ _ _ rfl (by decide)) <|
  Chain.cons (stepAt_binary 3776 _ _ _ _ rfl (by decide) (by decide)) <|
  Chain.cons (stepAt_binary 3777 _ _ _ _ rfl (by decide) (by decide)) <|
  Chain.cons (stepAt_nullary 3778 _ _ rfl) <|
  Chain.cons (stepAt_unary 3779 _ _ _ rfl (by decide)) <|
  Chain.cons (stepAt_binary 3780 _ _ _ _ rfl (by decide) (by decide)) <|
  Chain.cons (stepAt_unary 3781 _ _ _ rfl (by decide)) <|
  Chain.cons (stepAt_unary 3782 _ _ _ rfl (by decide)) <|
  Chain.cons (stepAt_binary 3783 _ _ _ _ rfl (by decide) (by decide)) <|
  Chain.cons (stepAt_nullary 3784 _ _ rfl) <|
  Chain.cons (stepAt_unary 3785 _ _ _ rfl (by decide)) <|
  Chain.cons (stepAt_binary 3786 _ _ _ _ rfl (by decide) (by decide)) <|
  Chain.cons (stepAt_unary 3787 _ _ _ rfl (by decide)) <|
  Chain.nil
theorem w55_length : (w55 : List (HloOp τ sig (Elt F))).length = 60 := rfl

end Cert.ReferenceIdeal.Ops

end
-- ==== Proof.SimB16.lean ====
/- Operations 3027 … 3213 of the one program and 3040 … 3226 of the other apply the same functions to corresponding
   buffers. If both programs' final contents satisfy their own lines' equations and agree on the buffers these operations
   read from outside, they agree on what these operations write: one congruence per operation, in program order. -/
import proofs.«133805_j10187662426200_2_alg».proof.Proof.KIStretch3
import proofs.«133805_j10187662426200_2_alg».proof.Proof.RefOps5
import proofs.«133805_j10187662426200_2_alg».proof.Proof.RefOps6
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B16 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_128 : List (HloOp Cert.KernelIdeal.τ Cert.KernelIdeal.sig (Elt F))).Forall fun op => ∀ b ∈ op.writes, Φ₁ b = op.result Φ₁ b)
    (fa1 : (Cert.KernelIdeal.Gen.hostOps0_129 : List (HloOp Cert.KernelIdeal.τ Cert.KernelIdeal.sig (Elt F))).Forall fun op => ∀ b ∈ op.writes, Φ₁ b = op.result Φ₁ b)
    (fa2 : (Cert.KernelIdeal.Gen.hostOps0_130 : List (HloOp Cert.KernelIdeal.τ Cert.KernelIdeal.sig (Elt F))).Forall fun op => ∀ b ∈ op.writes, Φ₁ b = op.result Φ₁ b)
    (fa3 : (Cert.KernelIdeal.Gen.hostOps0_131 : List (HloOp Cert.KernelIdeal.τ Cert.KernelIdeal.sig (Elt F))).Forall fun op => ∀ b ∈ op.writes, Φ₁ b = op.result Φ₁ b)
    (fa4 : (Cert.KernelIdeal.Gen.hostOps0_132 : List (HloOp Cert.KernelIdeal.τ Cert.KernelIdeal.sig (Elt F))).Forall fun op => ∀ b ∈ op.writes, Φ₁ b = op.result Φ₁ b)
    (fa5 : (Cert.KernelIdeal.Gen.hostOps0_133 : List (HloOp Cert.KernelIdeal.τ Cert.KernelIdeal.sig (Elt F))).Forall fun op => ∀ b ∈ op.writes, Φ₁ b = op.result Φ₁ b)
    (fa6 : (Cert.KernelIdeal.Gen.hostOps0_134 : List (HloOp Cert.KernelIdeal.τ Cert.KernelIdeal.sig (Elt F))).Forall fun op => ∀ b ∈ op.writes, Φ₁ b = op.result Φ₁ b)
    (fa7 : (Cert.KernelIdeal.Gen.hostOps0_135 : List (HloOp Cert.KernelIdeal.τ Cert.KernelIdeal.sig (Elt F))).Forall fun op => ∀ b ∈ op.writes, Φ₁ b = op.result Φ₁ b)
    (fa8 : (Cert.KernelIdeal.Gen.hostOps0_136 : List (HloOp Cert.KernelIdeal.τ Cert.KernelIdeal.sig (Elt F))).Forall fun op => ∀ b ∈ op.writes, Φ₁ b = op.result Φ₁ b)
    (fb0 : (Cert.ReferenceIdeal.Ops.w45 : List (HloOp Cert.ReferenceIdeal.τ Cert.ReferenceIdeal.sig (Elt F))).Forall fun op => ∀ b ∈ op.writes, Φ₂ b = op.result Φ₂ b)
    (fb1 : (Cert.ReferenceIdeal.Ops.w46 : List (HloOp Cert.ReferenceIdeal.τ Cert.ReferenceIdeal.sig (Elt F))).Forall fun op => ∀ b ∈ op.writes, Φ₂ b = op.result Φ₂ b)
    (fb2 : (Cert.ReferenceIdeal.Ops.w47 : List (HloOp Cert.ReferenceIdeal.τ Cert.ReferenceIdeal.sig (Elt F))).Forall fun op => ∀ b ∈ op.writes, Φ₂ b = op.result Φ₂ b)
    (fb3 : (Cert.ReferenceIdeal.Ops.w48 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_15)) (Φ₂ (Proc.devRef .tc Cert.ReferenceIdeal.main_c_15)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x256, .f32⟩ : BufTy).Contents (Elt F)) (Φ₁ (Proc.devRef .tc Cert.KernelIdeal.main_arg18)) (Φ₂ (Proc.devRef .tc Cert.ReferenceIdeal.main_arg18)))
    : @Eq ((⟨Cert.KernelIdeal.S131072x32, .f32⟩ : BufTy).Contents (Elt F)) (Φ₁ (Proc.devRef .tc Cert.KernelIdeal.main_v2201)) (Φ₂ (Proc.devRef .tc Cert.ReferenceIdeal.main_v2214)) := by
  have e0 : @Eq ((⟨Cert.KernelIdeal.S_, .i32⟩ : BufTy).Contents (Elt F)) (Φ₁ (Proc.devRef .tc Cert.KernelIdeal.main_c_632)) (Φ₂ (Proc.devRef .tc Cert.ReferenceIdeal.main_c_632)) := step0 (β := ((⟨Cert.KernelIdeal.S_, .i32⟩ : BufTy).Contents (Elt F))) (eq0 (at_ fa0 (i := 112) rfl) :) (eq0 (at_ fb0 (i := 20) rfl) :)
  have e1 : @Eq ((⟨Cert.KernelIdeal.S2, .i32⟩ : BufTy).Contents (Elt F)) (Φ₁ (Proc.devRef .tc Cert.KernelIdeal.main_v2073)) (Φ₂ (Proc.devRef .tc Cert.ReferenceIdeal.main_v2086)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 21) rfl) :) e0
  have e2 : @Eq ((⟨Cert.KernelIdeal.S2, .i1⟩ : BufTy).Contents (Elt F)) (Φ₁ (Proc.devRef .tc Cert.KernelIdeal.main_v2074)) (Φ₂ (Proc.devRef .tc Cert.ReferenceIdeal.main_v2087)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 22) rfl) :) x0 e1
  have e3 : @Eq ((⟨Cert.KernelIdeal.S_, .i32⟩ : BufTy).Contents (Elt F)) (Φ₁ (Proc.devRef .tc Cert.KernelIdeal.main_c_633)) (Φ₂ (Proc.devRef .tc Cert.ReferenceIdeal.main_c_633)) := step0 (β := ((⟨Cert.KernelIdeal.S_, .i32⟩ : BufTy).Contents (Elt F))) (eq0 (at_ fa0 (i := 115) rfl) :) (eq0 (at_ fb0 (i := 23) rfl) :)
  have e4 : @Eq ((⟨Cert.KernelIdeal.S2, .i32⟩ : BufTy).Contents (Elt F)) (Φ₁ (Proc.devRef .tc Cert.KernelIdeal.main_v2075)) (Φ₂ (Proc.devRef .tc Cert.ReferenceIdeal.main_v2088)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 24) rfl) :) e3
  have e5 : @Eq ((⟨Cert.KernelIdeal.S2, .i32⟩ : BufTy).Contents (Elt F)) (Φ₁ (Proc.devRef .tc Cert.KernelIdeal.main_v2076)) (Φ₂ (Proc.devRef .tc Cert.ReferenceIdeal.main_v2089)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 25) rfl) :) x0 e4
  have e6 : @Eq ((⟨Cert.KernelIdeal.S2, .i32⟩ : BufTy).Contents (Elt F)) (Φ₁ (Proc.devRef .tc Cert.KernelIdeal.main_v2077)) (Φ₂ (Proc.devRef .tc Cert.ReferenceIdeal.main_v2090)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 26) rfl) :) e2 e5 x0
  have e7 : @Eq ((⟨Cert.KernelIdeal.S2x1, .i32⟩ : BufTy).Contents (Elt F)) (Φ₁ (Proc.devRef .tc Cert.KernelIdeal.main_v2078)) (Φ₂ (Proc.devRef .tc Cert.ReferenceIdeal.main_v2091)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 27) rfl) :) e6
  have e8 : @Eq ((⟨Cert.KernelIdeal.S131072x2, .f32⟩ : BufTy).Contents (Elt F)) (Φ₁ (Proc.devRef .tc Cert.KernelIdeal.main_v2079)) (Φ₂ (Proc.devRef .tc Cert.ReferenceIdeal.main_v2092)) := by rw [eq2 (at_ fa0 (i := 120) rfl), eq2 (at_ fb0 (i := 28) rfl), x1, e7] <;> rfl
  have e9 : @Eq ((⟨Cert.KernelIdeal.S131072x1, .f32⟩ : BufTy).Contents (Elt F)) (Φ₁ (Proc.devRef .tc Cert.KernelIdeal.main_v2080)) (Φ₂ (Proc.devRef .tc Cert.ReferenceIdeal.main_v2093)) := by rw [eq1 (at_ fa0 (i := 121) rfl), eq1 (at_ fb0 (i := 29) rfl), e8] <;> rfl
  have e10 : @Eq ((⟨Cert.KernelIdeal.S131072, .f32⟩ : BufTy).Contents (Elt F)) (Φ₁ (Proc.devRef .tc Cert.KernelIdeal.main_v2081)) (Φ₂ (Proc.devRef .tc Cert.ReferenceIdeal.main_v2094)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 30) rfl) :) e9
  have e11 : @Eq ((⟨Cert.KernelIdeal.S_, .f32⟩ : BufTy).Contents (Elt F)) (Φ₁ (Proc.devRef .tc Cert.KernelIdeal.main_cst_634)) (Φ₂ (Proc.devRef .tc Cert.ReferenceIdeal.main_cst_634)) := step0 (β := ((⟨Cert.KernelIdeal.S_, .f32⟩ : BufTy).Contents (Elt F))) (eq0 (at_ fa0 (i := 123) rfl) :) (eq0 (at_ fb0 (i := 31) rfl) :)
  have e12 : @Eq ((⟨Cert.KernelIdeal.S131072, .f32⟩ : BufTy).Contents (Elt F)) (Φ₁ (Proc.devRef .tc Cert.KernelIdeal.main_v2082)) (Φ₂ (Proc.devRef .tc Cert.ReferenceIdeal.main_v2095)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 32) rfl) :) e11
  have e13 : @Eq ((⟨Cert.KernelIdeal.S131072, .f32⟩ : BufTy).Contents (Elt F)) (Φ₁ (Proc.devRef .tc Cert.KernelIdeal.main_v2083)) (Φ₂ (Proc.devRef .tc Cert.ReferenceIdeal.main_v2096)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 33) rfl) :) e10 e12
  have e14 : @Eq ((⟨Cert.KernelIdeal.S_, .f32⟩ : BufTy).Contents (Elt F)) (Φ₁ (Proc.devRef .tc Cert.KernelIdeal.main_cst_635)) (Φ₂ (Proc.devRef .tc Cert.ReferenceIdeal.main_cst_635)) := step0 (β := ((⟨Cert.KernelIdeal.S_, .f32⟩ : BufTy).Contents (Elt F))) (eq0 (at_ fa0 (i := 126) rfl) :) (eq0 (at_ fb0 (i := 34) rfl) :)
  have e15 : @Eq ((⟨Cert.KernelIdeal.S131072, .f32⟩ : BufTy).Contents (Elt F)) (Φ₁ (Proc.devRef .tc Cert.KernelIdeal.main_v2084)) (Φ₂ (Proc.devRef .tc Cert.ReferenceIdeal.main_v2097)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 35) rfl) :) e14
  have e16 : @Eq ((⟨Cert.KernelIdeal.S131072, .f32⟩ : BufTy).Contents (Elt F)) (Φ₁ (Proc.devRef .tc Cert.KernelIdeal.main_v2085)) (Φ₂ (Proc.devRef .tc Cert.ReferenceIdeal.main_v2098)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 36) rfl) :) e13 e15
  have e17 : @Eq ((⟨Cert.KernelIdeal.S_, .f32⟩ : BufTy).Contents (Elt F)) (Φ₁ (Proc.devRef .tc Cert.KernelIdeal.main_cst_636)) (Φ₂ (Proc.devRef .tc Cert.ReferenceIdeal.main_cst_636)) := step0 (β := ((⟨Cert.KernelIdeal.S_, .f32⟩ : BufTy).Contents (Elt F))) (eq0 (at_ fa0 (i := 129) rfl) :) (eq0 (at_ fb0 (i := 37) rfl) :)
  have e18 : @Eq ((⟨Cert.KernelIdeal.S131072, .f32⟩ : BufTy).Contents (Elt F)) (Φ₁ (Proc.devRef .tc Cert.KernelIdeal.main_v2086)) (Φ₂ (Proc.devRef .tc Cert.ReferenceIdeal.main_v2099)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 38) rfl) :) e17
  have e19 : @Eq ((⟨Cert.KernelIdeal.S131072, .f32⟩ : BufTy).Contents (Elt F)) (Φ₁ (Proc.devRef .tc Cert.KernelIdeal.main_v2087)) (Φ₂ (Proc.devRef .tc Cert.ReferenceIdeal.main_v2100)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 39) rfl) :) e16 e18
  have e20 : @Eq ((⟨Cert.KernelIdeal.S131072x1, .f32⟩ : BufTy).Contents (Elt F)) (Φ₁ (Proc.devRef .tc Cert.KernelIdeal.main_v2088)) (Φ₂ (Proc.devRef .tc Cert.ReferenceIdeal.main_v2101)) := by rw [eq1 (at_ fa0 (i := 132) rfl), eq1 (at_ fb0 (i := 40) rfl), e8] <;> rfl
  have e21 : @Eq ((⟨Cert.KernelIdeal.S131072, .f32⟩ : BufTy).Contents (Elt F)) (Φ₁ (Proc.devRef .tc Cert.KernelIdeal.main_v2089)) (Φ₂ (Proc.devRef .tc Cert.ReferenceIdeal.main_v2102)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 41) rfl) :) e20
  have e22 : @Eq ((⟨Cert.KernelIdeal.S_, .f32⟩ : BufTy).Contents (Elt F)) (Φ₁ (Proc.devRef .tc Cert.KernelIdeal.main_cst_637)) (Φ₂ (Proc.devRef .tc Cert.ReferenceIdeal.main_cst_637)) := step0 (β := ((⟨Cert.KernelIdeal.S_, .f32⟩ : BufTy).Contents (Elt F))) (eq0 (at_ fa0 (i := 134) rfl) :) (eq0 (at_ fb0 (i := 42) rfl) :)
  have e23 : @Eq ((⟨Cert.KernelIdeal.S131072, .f32⟩ : BufTy).Contents (Elt F)) (Φ₁ (Proc.devRef .tc Cert.KernelIdeal.main_v2090)) (Φ₂ (Proc.devRef .tc Cert.ReferenceIdeal.main_v2103)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 43) rfl) :) e22
  have e24 : @Eq ((⟨Cert.KernelIdeal.S131072, .f32⟩ : BufTy).Contents (Elt F)) (Φ₁ (Proc.devRef .tc Cert.KernelIdeal.main_v2091)) (Φ₂ (Proc.devRef .tc Cert.ReferenceIdeal.main_v2104)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 44) rfl) :) e21 e23
  have e25 : @Eq ((⟨Cert.KernelIdeal.S_, .f32⟩ : BufTy).Contents (Elt F)) (Φ₁ (Proc.devRef .tc Cert.KernelIdeal.main_cst_638)) (Φ₂ (Proc.devRef .tc Cert.ReferenceIdeal.main_cst_638)) := step0 (β := ((⟨Cert.KernelIdeal.S_, .f32⟩ : BufTy).Contents (Elt F))) (eq0 (at_ fa0 (i := 137) rfl) :) (eq0 (at_ fb0 (i := 45) rfl) :)
  have e26 : @Eq ((⟨Cert.KernelIdeal.S131072, .f32⟩ : BufTy).Contents (Elt F)) (Φ₁ (Proc.devRef .tc Cert.KernelIdeal.main_v2092)) (Φ₂ (Proc.devRef .tc Cert.ReferenceIdeal.main_v2105)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 46) rfl) :) e25
  have e27 : @Eq ((⟨Cert.KernelIdeal.S131072, .f32⟩ : BufTy).Contents (Elt F)) (Φ₁ (Proc.devRef .tc Cert.KernelIdeal.main_v2093)) (Φ₂ (Proc.devRef .tc Cert.ReferenceIdeal.main_v2106)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 47) rfl) :) e24 e26
  have e28 : @Eq ((⟨Cert.KernelIdeal.S_, .f32⟩ : BufTy).Contents (Elt F)) (Φ₁ (Proc.devRef .tc Cert.KernelIdeal.main_cst_639)) (Φ₂ (Proc.devRef .tc Cert.ReferenceIdeal.main_cst_639)) := step0 (β := ((⟨Cert.KernelIdeal.S_, .f32⟩ : BufTy).Contents (Elt F))) (eq0 (at_ fa0 (i := 140) rfl) :) (eq0 (at_ fb0 (i := 48) rfl) :)
  have e29 : @Eq ((⟨Cert.KernelIdeal.S131072, .f32⟩ : BufTy).Contents (Elt F)) (Φ₁ (Proc.devRef .tc Cert.KernelIdeal.main_v2094)) (Φ₂ (Proc.devRef .tc Cert.ReferenceIdeal.main_v2107)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 49) rfl) :) e28
  have e30 : @Eq ((⟨Cert.KernelIdeal.S131072, .f32⟩ : BufTy).Contents (Elt F)) (Φ₁ (Proc.devRef .tc Cert.KernelIdeal.main_v2095)) (Φ₂ (Proc.devRef .tc Cert.ReferenceIdeal.main_v2108)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 50) rfl) :) e27 e29
  have e31 : @Eq ((⟨Cert.KernelIdeal.S131072, .f32⟩ : BufTy).Contents (Elt F)) (Φ₁ (Proc.devRef .tc Cert.KernelIdeal.main_v2096)) (Φ₂ (Proc.devRef .tc Cert.ReferenceIdeal.main_v2109)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 51) rfl) :) e19
  have e32 : @Eq ((⟨Cert.KernelIdeal.S131072, .f32⟩ : BufTy).Contents (Elt F)) (Φ₁ (Proc.devRef .tc Cert.KernelIdeal.main_v2097)) (Φ₂ (Proc.devRef .tc Cert.ReferenceIdeal.main_v2110)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 52) rfl) :) e30
  have e33 : @Eq ((⟨Cert.KernelIdeal.S131072, .f32⟩ : BufTy).Contents (Elt F)) (Φ₁ (Proc.devRef .tc Cert.KernelIdeal.main_v2098)) (Φ₂ (Proc.devRef .tc Cert.ReferenceIdeal.main_v2111)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 53) rfl) :) e19 e31
  have e34 : @Eq ((⟨Cert.KernelIdeal.S131072, .f32⟩ : BufTy).Contents (Elt F)) (Φ₁ (Proc.devRef .tc Cert.KernelIdeal.main_v2099)) (Φ₂ (Proc.devRef .tc Cert.ReferenceIdeal.main_v2112)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 54) rfl) :) e30 e32
  have e35 : @Eq ((⟨Cert.KernelIdeal.S131072, .i32⟩ : BufTy).Contents (Elt F)) (Φ₁ (Proc.devRef .tc Cert.KernelIdeal.main_v2100)) (Φ₂ (Proc.devRef .tc Cert.ReferenceIdeal.main_v2113)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 55) rfl) :) e31
  have e36 : @Eq ((⟨Cert.KernelIdeal.S_, .i32⟩ : BufTy).Contents (Elt F)) (Φ₁ (Proc.devRef .tc Cert.KernelIdeal.main_c_640)) (Φ₂ (Proc.devRef .tc Cert.ReferenceIdeal.main_c_640)) := step0 (β := ((⟨Cert.KernelIdeal.S_, .i32⟩ : BufTy).Contents (Elt F))) (eq0 (at_ fa0 (i := 148) rfl) :) (eq0 (at_ fb0 (i := 56) rfl) :)
  have e37 : @Eq ((⟨Cert.KernelIdeal.S_, .i32⟩ : BufTy).Contents (Elt F)) (Φ₁ (Proc.devRef .tc Cert.KernelIdeal.main_c_641)) (Φ₂ (Proc.devRef .tc Cert.ReferenceIdeal.main_c_641)) := step0 (β := ((⟨Cert.KernelIdeal.S_, .i32⟩ : BufTy).Contents (Elt F))) (eq0 (at_ fa0 (i := 149) rfl) :) (eq0 (at_ fb0 (i := 57) rfl) :)
  have e38 : @Eq ((⟨Cert.KernelIdeal.S_, .i32⟩ : BufTy).Contents (Elt F)) (Φ₁ (Proc.devRef .tc Cert.KernelIdeal.main_call64_v0)) (Φ₂ (Proc.devRef .tc Cert.ReferenceIdeal.main_call64_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 58) rfl) :) e36
  have e39 : @Eq ((⟨Cert.KernelIdeal.S131072, .i32⟩ : BufTy).Contents (Elt F)) (Φ₁ (Proc.devRef .tc Cert.KernelIdeal.main_call64_v1)) (Φ₂ (Proc.devRef .tc Cert.ReferenceIdeal.main_call64_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 59) rfl) :) e38
  have e40 : @Eq ((⟨Cert.KernelIdeal.S131072, .i32⟩ : BufTy).Contents (Elt F)) (Φ₁ (Proc.devRef .tc Cert.KernelIdeal.main_call64_v2)) (Φ₂ (Proc.devRef .tc Cert.ReferenceIdeal.main_call64_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 60) rfl) :) e39 e35
  have e41 : @Eq ((⟨Cert.KernelIdeal.S_, .i32⟩ : BufTy).Contents (Elt F)) (Φ₁ (Proc.devRef .tc Cert.KernelIdeal.main_call64_v3)) (Φ₂ (Proc.devRef .tc Cert.ReferenceIdeal.main_call64_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 61) rfl) :) e37
  have e42 : @Eq ((⟨Cert.KernelIdeal.S131072, .i32⟩ : BufTy).Contents (Elt F)) (Φ₁ (Proc.devRef .tc Cert.KernelIdeal.main_call64_v4)) (Φ₂ (Proc.devRef .tc Cert.ReferenceIdeal.main_call64_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 62) rfl) :) e41
  have e43 : @Eq ((⟨Cert.KernelIdeal.S131072, .i32⟩ : BufTy).Contents (Elt F)) (Φ₁ (Proc.devRef .tc Cert.KernelIdeal.main_v2101)) (Φ₂ (Proc.devRef .tc Cert.ReferenceIdeal.main_v2114)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 63) rfl) :) e42 e40
  have e44 : @Eq ((⟨Cert.KernelIdeal.S_, .i32⟩ : BufTy).Contents (Elt F)) (Φ₁ (Proc.devRef .tc Cert.KernelIdeal.main_c_642)) (Φ₂ (Proc.devRef .tc Cert.ReferenceIdeal.main_c_642)) := step0 (β := ((⟨Cert.KernelIdeal.S_, .i32⟩ : BufTy).Contents (Elt F))) (eq0 (at_ fa2 (i := 0) rfl) :) (eq0 (at_ fb0 (i := 64) rfl) :)
  have e45 : @Eq ((⟨Cert.KernelIdeal.S131072, .i32⟩ : BufTy).Contents (Elt F)) (Φ₁ (Proc.devRef .tc Cert.KernelIdeal.main_v2102)) (Φ₂ (Proc.devRef .tc Cert.ReferenceIdeal.main_v2115)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 0) rfl) :) e44
  have e46 : @Eq ((⟨Cert.KernelIdeal.S131072, .i32⟩ : BufTy).Contents (Elt F)) (Φ₁ (Proc.devRef .tc Cert.KernelIdeal.main_v2103)) (Φ₂ (Proc.devRef .tc Cert.ReferenceIdeal.main_v2116)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 1) rfl) :) e43 e45
  have e47 : @Eq ((⟨Cert.KernelIdeal.S_, .i32⟩ : BufTy).Contents (Elt F)) (Φ₁ (Proc.devRef .tc Cert.KernelIdeal.main_c_643)) (Φ₂ (Proc.devRef .tc Cert.ReferenceIdeal.main_c_643)) := step0 (β := ((⟨Cert.KernelIdeal.S_, .i32⟩ : BufTy).Contents (Elt F))) (eq0 (at_ fa2 (i := 3) rfl) :) (eq0 (at_ fb1 (i := 2) rfl) :)
  have e48 : @Eq ((⟨Cert.KernelIdeal.S_, .i32⟩ : BufTy).Contents (Elt F)) (Φ₁ (Proc.devRef .tc Cert.KernelIdeal.main_c_644)) (Φ₂ (Proc.devRef .tc Cert.ReferenceIdeal.main_c_644)) := step0 (β := ((⟨Cert.KernelIdeal.S_, .i32⟩ : BufTy).Contents (Elt F))) (eq0 (at_ fa2 (i := 4) rfl) :) (eq0 (at_ fb1 (i := 3) rfl) :)
  have e49 : @Eq ((⟨Cert.KernelIdeal.S_, .i32⟩ : BufTy).Contents (Elt F)) (Φ₁ (Proc.devRef .tc Cert.KernelIdeal.main_call65_v0)) (Φ₂ (Proc.devRef .tc Cert.ReferenceIdeal.main_call65_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 4) rfl) :) e47
  have e50 : @Eq ((⟨Cert.KernelIdeal.S131072, .i32⟩ : BufTy).Contents (Elt F)) (Φ₁ (Proc.devRef .tc Cert.KernelIdeal.main_call65_v1)) (Φ₂ (Proc.devRef .tc Cert.ReferenceIdeal.main_call65_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 5) rfl) :) e49
  have e51 : @Eq ((⟨Cert.KernelIdeal.S131072, .i32⟩ : BufTy).Contents (Elt F)) (Φ₁ (Proc.devRef .tc Cert.KernelIdeal.main_call65_v2)) (Φ₂ (Proc.devRef .tc Cert.ReferenceIdeal.main_call65_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 6) rfl) :) e50 e46
  have e52 : @Eq ((⟨Cert.KernelIdeal.S_, .i32⟩ : BufTy).Contents (Elt F)) (Φ₁ (Proc.devRef .tc Cert.KernelIdeal.main_call65_v3)) (Φ₂ (Proc.devRef .tc Cert.ReferenceIdeal.main_call65_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 7) rfl) :) e48
  have e53 : @Eq ((⟨Cert.KernelIdeal.S131072, .i32⟩ : BufTy).Contents (Elt F)) (Φ₁ (Proc.devRef .tc Cert.KernelIdeal.main_call65_v4)) (Φ₂ (Proc.devRef .tc Cert.ReferenceIdeal.main_call65_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 8) rfl) :) e52
  have e54 : @Eq ((⟨Cert.KernelIdeal.S131072, .i32⟩ : BufTy).Contents (Elt F)) (Φ₁ (Proc.devRef .tc Cert.KernelIdeal.main_v2104)) (Φ₂ (Proc.devRef .tc Cert.ReferenceIdeal.main_v2117)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 9) rfl) :) e53 e51
  have e55 : @Eq ((⟨Cert.KernelIdeal.S131072, .i32⟩ : BufTy).Contents (Elt F)) (Φ₁ (Proc.devRef .tc Cert.KernelIdeal.main_v2105)) (Φ₂ (Proc.devRef .tc Cert.ReferenceIdeal.main_v2118)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 10) rfl) :) e32
  have e56 : @Eq ((⟨Cert.KernelIdeal.S_, .i32⟩ : BufTy).Contents (Elt F)) (Φ₁ (Proc.devRef .tc Cert.KernelIdeal.main_c_645)) (Φ₂ (Proc.devRef .tc Cert.ReferenceIdeal.main_c_645)) := step0 (β := ((⟨Cert.KernelIdeal.S_, .i32⟩ : BufTy).Contents (Elt F))) (eq0 (at_ fa4 (i := 1) rfl) :) (eq0 (at_ fb1 (i := 11) rfl) :)
  have e57 : @Eq ((⟨Cert.KernelIdeal.S_, .i32⟩ : BufTy).Contents (Elt F)) (Φ₁ (Proc.devRef .tc Cert.KernelIdeal.main_c_646)) (Φ₂ (Proc.devRef .tc Cert.ReferenceIdeal.main_c_646)) := step0 (β := ((⟨Cert.KernelIdeal.S_, .i32⟩ : BufTy).Contents (Elt F))) (eq0 (at_ fa4 (i := 2) rfl) :) (eq0 (at_ fb1 (i := 12) rfl) :)
  have e58 : @Eq ((⟨Cert.KernelIdeal.S_, .i32⟩ : BufTy).Contents (Elt F)) (Φ₁ (Proc.devRef .tc Cert.KernelIdeal.main_call66_v0)) (Φ₂ (Proc.devRef .tc Cert.ReferenceIdeal.main_call66_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 13) rfl) :) e56
  have e59 : @Eq ((⟨Cert.KernelIdeal.S131072, .i32⟩ : BufTy).Contents (Elt F)) (Φ₁ (Proc.devRef .tc Cert.KernelIdeal.main_call66_v1)) (Φ₂ (Proc.devRef .tc Cert.ReferenceIdeal.main_call66_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 14) rfl) :) e58
  have e60 : @Eq ((⟨Cert.KernelIdeal.S131072, .i32⟩ : BufTy).Contents (Elt F)) (Φ₁ (Proc.devRef .tc Cert.KernelIdeal.main_call66_v2)) (Φ₂ (Proc.devRef .tc Cert.ReferenceIdeal.main_call66_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 15) rfl) :) e59 e55
  have e61 : @Eq ((⟨Cert.KernelIdeal.S_, .i32⟩ : BufTy).Contents (Elt F)) (Φ₁ (Proc.devRef .tc Cert.KernelIdeal.main_call66_v3)) (Φ₂ (Proc.devRef .tc Cert.ReferenceIdeal.main_call66_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 16) rfl) :) e57
  have e62 : @Eq ((⟨Cert.KernelIdeal.S131072, .i32⟩ : BufTy).Contents (Elt F)) (Φ₁ (Proc.devRef .tc Cert.KernelIdeal.main_call66_v4)) (Φ₂ (Proc.devRef .tc Cert.ReferenceIdeal.main_call66_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 17) rfl) :) e61
  have e63 : @Eq ((⟨Cert.KernelIdeal.S131072, .i32⟩ : BufTy).Contents (Elt F)) (Φ₁ (Proc.devRef .tc Cert.KernelIdeal.main_v2106)) (Φ₂ (Proc.devRef .tc Cert.ReferenceIdeal.main_v2119)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 18) rfl) :) e62 e60
  have e64 : @Eq ((⟨Cert.KernelIdeal.S_, .i32⟩ : BufTy).Contents (Elt F)) (Φ₁ (Proc.devRef .tc Cert.KernelIdeal.main_c_647)) (Φ₂ (Proc.devRef .tc Cert.ReferenceIdeal.main_c_647)) := step0 (β := ((⟨Cert.KernelIdeal.S_, .i32⟩ : BufTy).Contents (Elt F))) (eq0 (at_ fa6 (i := 0) rfl) :) (eq0 (at_ fb1 (i := 19) rfl) :)
  have e65 : @Eq ((⟨Cert.KernelIdeal.S131072, .i32⟩ : BufTy).Contents (Elt F)) (Φ₁ (Proc.devRef .tc Cert.KernelIdeal.main_v2107)) (Φ₂ (Proc.devRef .tc Cert.ReferenceIdeal.main_v2120)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 20) rfl) :) e64
  have e66 : @Eq ((⟨Cert.KernelIdeal.S131072, .i32⟩ : BufTy).Contents (Elt F)) (Φ₁ (Proc.devRef .tc Cert.KernelIdeal.main_v2108)) (Φ₂ (Proc.devRef .tc Cert.ReferenceIdeal.main_v2121)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 21) rfl) :) e63 e65
  have e67 : @Eq ((⟨Cert.KernelIdeal.S_, .i32⟩ : BufTy).Contents (Elt F)) (Φ₁ (Proc.devRef .tc Cert.KernelIdeal.main_c_648)) (Φ₂ (Proc.devRef .tc Cert.ReferenceIdeal.main_c_648)) := step0 (β := ((⟨Cert.KernelIdeal.S_, .i32⟩ : BufTy).Contents (Elt F))) (eq0 (at_ fa6 (i := 3) rfl) :) (eq0 (at_ fb1 (i := 22) rfl) :)
  have e68 : @Eq ((⟨Cert.KernelIdeal.S_, .i32⟩ : BufTy).Contents (Elt F)) (Φ₁ (Proc.devRef .tc Cert.KernelIdeal.main_c_649)) (Φ₂ (Proc.devRef .tc Cert.ReferenceIdeal.main_c_649)) := step0 (β := ((⟨Cert.KernelIdeal.S_, .i32⟩ : BufTy).Contents (Elt F))) (eq0 (at_ fa6 (i := 4) rfl) :) (eq0 (at_ fb1 (i := 23) rfl) :)
  have e69 : @Eq ((⟨Cert.KernelIdeal.S_, .i32⟩ : BufTy).Contents (Elt F)) (Φ₁ (Proc.devRef .tc Cert.KernelIdeal.main_call67_v0)) (Φ₂ (Proc.devRef .tc Cert.ReferenceIdeal.main_call67_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 24) rfl) :) e67
  have e70 : @Eq ((⟨Cert.KernelIdeal.S131072, .i32⟩ : BufTy).Contents (Elt F)) (Φ₁ (Proc.devRef .tc Cert.KernelIdeal.main_call67_v1)) (Φ₂ (Proc.devRef .tc Cert.ReferenceIdeal.main_call67_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 25) rfl) :) e69
  have e71 : @Eq ((⟨Cert.KernelIdeal.S131072, .i32⟩ : BufTy).Contents (Elt F)) (Φ₁ (Proc.devRef .tc Cert.KernelIdeal.main_call67_v2)) (Φ₂ (Proc.devRef .tc Cert.ReferenceIdeal.main_call67_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 26) rfl) :) e70 e66
  have e72 : @Eq ((⟨Cert.KernelIdeal.S_, .i32⟩ : BufTy).Contents (Elt F)) (Φ₁ (Proc.devRef .tc Cert.KernelIdeal.main_call67_v3)) (Φ₂ (Proc.devRef .tc Cert.ReferenceIdeal.main_call67_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 27) rfl) :) e68
  have e73 : @Eq ((⟨Cert.KernelIdeal.S131072, .i32⟩ : BufTy).Contents (Elt F)) (Φ₁ (Proc.devRef .tc Cert.KernelIdeal.main_call67_v4)) (Φ₂ (Proc.devRef .tc Cert.ReferenceIdeal.main_call67_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 28) rfl) :) e72
  have e74 : @Eq ((⟨Cert.KernelIdeal.S131072, .i32⟩ : BufTy).Contents (Elt F)) (Φ₁ (Proc.devRef .tc Cert.KernelIdeal.main_v2109)) (Φ₂ (Proc.devRef .tc Cert.ReferenceIdeal.main_v2122)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 29) rfl) :) e73 e71
  have e75 : @Eq ((⟨Cert.KernelIdeal.S_, .i32⟩ : BufTy).Contents (Elt F)) (Φ₁ (Proc.devRef .tc Cert.KernelIdeal.main_c_650)) (Φ₂ (Proc.devRef .tc Cert.ReferenceIdeal.main_c_650)) := step0 (β := ((⟨Cert.KernelIdeal.S_, .i32⟩ : BufTy).Contents (Elt F))) (eq0 (at_ fa8 (i := 0) rfl) :) (eq0 (at_ fb1 (i := 30) rfl) :)
  have e76 : @Eq ((⟨Cert.KernelIdeal.S131072, .i32⟩ : BufTy).Contents (Elt F)) (Φ₁ (Proc.devRef .tc Cert.KernelIdeal.main_v2110)) (Φ₂ (Proc.devRef .tc Cert.ReferenceIdeal.main_v2123)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 31) rfl) :) e75
  have e77 : @Eq ((⟨Cert.KernelIdeal.S131072, .i1⟩ : BufTy).Contents (Elt F)) (Φ₁ (Proc.devRef .tc Cert.KernelIdeal.main_v2111)) (Φ₂ (Proc.devRef .tc Cert.ReferenceIdeal.main_v2124)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 32) rfl) :) e63 e76
  have e78 : @Eq ((⟨Cert.KernelIdeal.S_, .i32⟩ : BufTy).Contents (Elt F)) (Φ₁ (Proc.devRef .tc Cert.KernelIdeal.main_c_651)) (Φ₂ (Proc.devRef .tc Cert.ReferenceIdeal.main_c_651)) := step0 (β := ((⟨Cert.KernelIdeal.S_, .i32⟩ : BufTy).Contents (Elt F))) (eq0 (at_ fa8 (i := 3) rfl) :) (eq0 (at_ fb1 (i := 33) rfl) :)
  have e79 : @Eq ((⟨Cert.KernelIdeal.S131072, .i32⟩ : BufTy).Contents (Elt F)) (Φ₁ (Proc.devRef .tc Cert.KernelIdeal.main_v2112)) (Φ₂ (Proc.devRef .tc Cert.ReferenceIdeal.main_v2125)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 34) rfl) :) e78
  have e80 : @Eq ((⟨Cert.KernelIdeal.S131072, .i32⟩ : BufTy).Contents (Elt F)) (Φ₁ (Proc.devRef .tc Cert.KernelIdeal.main_v2113)) (Φ₂ (Proc.devRef .tc Cert.ReferenceIdeal.main_v2126)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 35) rfl) :) e63 e79
  have e81 : @Eq ((⟨Cert.KernelIdeal.S131072, .i32⟩ : BufTy).Contents (Elt F)) (Φ₁ (Proc.devRef .tc Cert.KernelIdeal.main_v2114)) (Φ₂ (Proc.devRef .tc Cert.ReferenceIdeal.main_v2127)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 36) rfl) :) e77 e80 e63
  have e82 : @Eq ((⟨Cert.KernelIdeal.S_, .i32⟩ : BufTy).Contents (Elt F)) (Φ₁ (Proc.devRef .tc Cert.KernelIdeal.main_c_652)) (Φ₂ (Proc.devRef .tc Cert.ReferenceIdeal.main_c_652)) := step0 (β := ((⟨Cert.KernelIdeal.S_, .i32⟩ : BufTy).Contents (Elt F))) (eq0 (at_ fa8 (i := 7) rfl) :) (eq0 (at_ fb1 (i := 37) rfl) :)
  have e83 : @Eq ((⟨Cert.KernelIdeal.S131072, .i32⟩ : BufTy).Contents (Elt F)) (Φ₁ (Proc.devRef .tc Cert.KernelIdeal.main_v2115)) (Φ₂ (Proc.devRef .tc Cert.ReferenceIdeal.main_v2128)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 38) rfl) :) e82
  have e84 : @Eq ((⟨Cert.KernelIdeal.S131072, .i1⟩ : BufTy).Contents (Elt F)) (Φ₁ (Proc.devRef .tc Cert.KernelIdeal.main_v2116)) (Φ₂ (Proc.devRef .tc Cert.ReferenceIdeal.main_v2129)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 39) rfl) :) e43 e83
  have e85 : @Eq ((⟨Cert.KernelIdeal.S_, .i32⟩ : BufTy).Contents (Elt F)) (Φ₁ (Proc.devRef .tc Cert.KernelIdeal.main_c_653)) (Φ₂ (Proc.devRef .tc Cert.ReferenceIdeal.main_c_653)) := step0 (β := ((⟨Cert.KernelIdeal.S_, .i32⟩ : BufTy).Contents (Elt F))) (eq0 (at_ fa8 (i := 10) rfl) :) (eq0 (at_ fb1 (i := 40) rfl) :)
  have e86 : @Eq ((⟨Cert.KernelIdeal.S131072, .i32⟩ : BufTy).Contents (Elt F)) (Φ₁ (Proc.devRef .tc Cert.KernelIdeal.main_v2117)) (Φ₂ (Proc.devRef .tc Cert.ReferenceIdeal.main_v2130)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 41) rfl) :) e85
  have e87 : @Eq ((⟨Cert.KernelIdeal.S131072, .i32⟩ : BufTy).Contents (Elt F)) (Φ₁ (Proc.devRef .tc Cert.KernelIdeal.main_v2118)) (Φ₂ (Proc.devRef .tc Cert.ReferenceIdeal.main_v2131)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 42) rfl) :) e43 e86
  have e88 : @Eq ((⟨Cert.KernelIdeal.S131072, .i32⟩ : BufTy).Contents (Elt F)) (Φ₁ (Proc.devRef .tc Cert.KernelIdeal.main_v2119)) (Φ₂ (Proc.devRef .tc Cert.ReferenceIdeal.main_v2132)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 43) rfl) :) e84 e87 e43
  have e89 : @Eq ((⟨Cert.KernelIdeal.S131072x1, .i32⟩ : BufTy).Contents (Elt F)) (Φ₁ (Proc.devRef .tc Cert.KernelIdeal.main_v2120)) (Φ₂ (Proc.devRef .tc Cert.ReferenceIdeal.main_v2133)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 44) rfl) :) e81
  have e90 : @Eq ((⟨Cert.KernelIdeal.S131072x1, .i32⟩ : BufTy).Contents (Elt F)) (Φ₁ (Proc.devRef .tc Cert.KernelIdeal.main_v2121)) (Φ₂ (Proc.devRef .tc Cert.ReferenceIdeal.main_v2134)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 45) rfl) :) e88
  have e91 : @Eq ((⟨Cert.KernelIdeal.S131072x2, .i32⟩ : BufTy).Contents (Elt F)) (Φ₁ (Proc.devRef .tc Cert.KernelIdeal.main_v2122)) (Φ₂ (Proc.devRef .tc Cert.ReferenceIdeal.main_v2135)) := by rw [eq2 (at_ fa8 (i := 16) rfl), eq2 (at_ fb1 (i := 46) rfl), e89, e90] <;> rfl
  have e92 : @Eq ((⟨Cert.KernelIdeal.S32x131072, .f32⟩ : BufTy).Contents (Elt F)) (Φ₁ (Proc.devRef .tc Cert.KernelIdeal.main_v2123)) (Φ₂ (Proc.devRef .tc Cert.ReferenceIdeal.main_v2136)) := by rw [eq2 (at_ fa8 (i := 17) rfl), eq2 (at_ fb1 (i := 47) rfl), x2, e91] <;> rfl
  have e93 : @Eq ((⟨Cert.KernelIdeal.S_, .i32⟩ : BufTy).Contents (Elt F)) (Φ₁ (Proc.devRef .tc Cert.KernelIdeal.main_c_654)) (Φ₂ (Proc.devRef .tc Cert.ReferenceIdeal.main_c_654)) := step0 (β := ((⟨Cert.KernelIdeal.S_, .i32⟩ : BufTy).Contents (Elt F))) (eq0 (at_ fa8 (i := 18) rfl) :) (eq0 (at_ fb1 (i := 48) rfl) :)
  have e94 : @Eq ((⟨Cert.KernelIdeal.S131072, .i32⟩ : BufTy).Contents (Elt F)) (Φ₁ (Proc.devRef .tc Cert.KernelIdeal.main_v2124)) (Φ₂ (Proc.devRef .tc Cert.ReferenceIdeal.main_v2137)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 49) rfl) :) e93
  have e95 : @Eq ((⟨Cert.KernelIdeal.S131072, .i1⟩ : BufTy).Contents (Elt F)) (Φ₁ (Proc.devRef .tc Cert.KernelIdeal.main_v2125)) (Φ₂ (Proc.devRef .tc Cert.ReferenceIdeal.main_v2138)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 50) rfl) :) e63 e94
  have e96 : @Eq ((⟨Cert.KernelIdeal.S_, .i32⟩ : BufTy).Contents (Elt F)) (Φ₁ (Proc.devRef .tc Cert.KernelIdeal.main_c_655)) (Φ₂ (Proc.devRef .tc Cert.ReferenceIdeal.main_c_655)) := step0 (β := ((⟨Cert.KernelIdeal.S_, .i32⟩ : BufTy).Contents (Elt F))) (eq0 (at_ fa8 (i := 21) rfl) :) (eq0 (at_ fb1 (i := 51) rfl) :)
  have e97 : @Eq ((⟨Cert.KernelIdeal.S131072, .i32⟩ : BufTy).Contents (Elt F)) (Φ₁ (Proc.devRef .tc Cert.KernelIdeal.main_v2126)) (Φ₂ (Proc.devRef .tc Cert.ReferenceIdeal.main_v2139)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 52) rfl) :) e96
  have e98 : @Eq ((⟨Cert.KernelIdeal.S131072, .i32⟩ : BufTy).Contents (Elt F)) (Φ₁ (Proc.devRef .tc Cert.KernelIdeal.main_v2127)) (Φ₂ (Proc.devRef .tc Cert.ReferenceIdeal.main_v2140)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 53) rfl) :) e63 e97
  have e99 : @Eq ((⟨Cert.KernelIdeal.S131072, .i32⟩ : BufTy).Contents (Elt F)) (Φ₁ (Proc.devRef .tc Cert.KernelIdeal.main_v2128)) (Φ₂ (Proc.devRef .tc Cert.ReferenceIdeal.main_v2141)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 54) rfl) :) e95 e98 e63
  have e100 : @Eq ((⟨Cert.KernelIdeal.S_, .i32⟩ : BufTy).Contents (Elt F)) (Φ₁ (Proc.devRef .tc Cert.KernelIdeal.main_c_656)) (Φ₂ (Proc.devRef .tc Cert.ReferenceIdeal.main_c_656)) := step0 (β := ((⟨Cert.KernelIdeal.S_, .i32⟩ : BufTy).Contents (Elt F))) (eq0 (at_ fa8 (i := 25) rfl) :) (eq0 (at_ fb1 (i := 55) rfl) :)
  have e101 : @Eq ((⟨Cert.KernelIdeal.S131072, .i32⟩ : BufTy).Contents (Elt F)) (Φ₁ (Proc.devRef .tc Cert.KernelIdeal.main_v2129)) (Φ₂ (Proc.devRef .tc Cert.ReferenceIdeal.main_v2142)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 56) rfl) :) e100
  have e102 : @Eq ((⟨Cert.KernelIdeal.S131072, .i1⟩ : BufTy).Contents (Elt F)) (Φ₁ (Proc.devRef .tc Cert.KernelIdeal.main_v2130)) (Φ₂ (Proc.devRef .tc Cert.ReferenceIdeal.main_v2143)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 57) rfl) :) e54 e101
  have e103 : @Eq ((⟨Cert.KernelIdeal.S_, .i32⟩ : BufTy).Contents (Elt F)) (Φ₁ (Proc.devRef .tc Cert.KernelIdeal.main_c_657)) (Φ₂ (Proc.devRef .tc Cert.ReferenceIdeal.main_c_657)) := step0 (β := ((⟨Cert.KernelIdeal.S_, .i32⟩ : BufTy).Contents (Elt F))) (eq0 (at_ fa8 (i := 28) rfl) :) (eq0 (at_ fb1 (i := 58) rfl) :)
  have e104 : @Eq ((⟨Cert.KernelIdeal.S131072, .i32⟩ : BufTy).Contents (Elt F)) (Φ₁ (Proc.devRef .tc Cert.KernelIdeal.main_v2131)) (Φ₂ (Proc.devRef .tc Cert.ReferenceIdeal.main_v2144)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 59) rfl) :) e103
  have e105 : @Eq ((⟨Cert.KernelIdeal.S131072, .i32⟩ : BufTy).Contents (Elt F)) (Φ₁ (Proc.devRef .tc Cert.KernelIdeal.main_v2132)) (Φ₂ (Proc.devRef .tc Cert.ReferenceIdeal.main_v2145)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 60) rfl) :) e54 e104
  have e106 : @Eq ((⟨Cert.KernelIdeal.S131072, .i32⟩ : BufTy).Contents (Elt F)) (Φ₁ (Proc.devRef .tc Cert.KernelIdeal.main_v2133)) (Φ₂ (Proc.devRef .tc Cert.ReferenceIdeal.main_v2146)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 61) rfl) :) e102 e105 e54
  have e107 : @Eq ((⟨Cert.KernelIdeal.S131072x1, .i32⟩ : BufTy).Contents (Elt F)) (Φ₁ (Proc.devRef .tc Cert.KernelIdeal.main_v2134)) (Φ₂ (Proc.devRef .tc Cert.ReferenceIdeal.main_v2147)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 62) rfl) :) e99
  have e108 : @Eq ((⟨Cert.KernelIdeal.S131072x1, .i32⟩ : BufTy).Contents (Elt F)) (Φ₁ (Proc.devRef .tc Cert.KernelIdeal.main_v2135)) (Φ₂ (Proc.devRef .tc Cert.ReferenceIdeal.main_v2148)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 63) rfl) :) e106
  have e109 : @Eq ((⟨Cert.KernelIdeal.S131072x2, .i32⟩ : BufTy).Contents (Elt F)) (Φ₁ (Proc.devRef .tc Cert.KernelIdeal.main_v2136)) (Φ₂ (Proc.devRef .tc Cert.ReferenceIdeal.main_v2149)) := by rw [eq2 (at_ fa8 (i := 34) rfl), eq2 (at_ fb1 (i := 64) rfl), e107, e108] <;> rfl
  have e110 : @Eq ((⟨Cert.KernelIdeal.S32x131072, .f32⟩ : BufTy).Contents (Elt F)) (Φ₁ (Proc.devRef .tc Cert.KernelIdeal.main_v2137)) (Φ₂ (Proc.devRef .tc Cert.ReferenceIdeal.main_v2150)) := by rw [eq2 (at_ fa8 (i := 35) rfl), eq2 (at_ fb1 (i := 65) rfl), x2, e109] <;> rfl
  have e111 : @Eq ((⟨Cert.KernelIdeal.S_, .i32⟩ : BufTy).Contents (Elt F)) (Φ₁ (Proc.devRef .tc Cert.KernelIdeal.main_c_658)) (Φ₂ (Proc.devRef .tc Cert.ReferenceIdeal.main_c_658)) := step0 (β := ((⟨Cert.KernelIdeal.S_, .i32⟩ : BufTy).Contents (Elt F))) (eq0 (at_ fa8 (i := 36) rfl) :) (eq0 (at_ fb1 (i := 66) rfl) :)
  have e112 : @Eq ((⟨Cert.KernelIdeal.S131072, .i32⟩ : BufTy).Contents (Elt F)) (Φ₁ (Proc.devRef .tc Cert.KernelIdeal.main_v2138)) (Φ₂ (Proc.devRef .tc Cert.ReferenceIdeal.main_v2151)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 67) rfl) :) e111
  have e113 : @Eq ((⟨Cert.KernelIdeal.S131072, .i1⟩ : BufTy).Contents (Elt F)) (Φ₁ (Proc.devRef .tc Cert.KernelIdeal.main_v2139)) (Φ₂ (Proc.devRef .tc Cert.ReferenceIdeal.main_v2152)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 68) rfl) :) e74 e112
  have e114 : @Eq ((⟨Cert.KernelIdeal.S_, .i32⟩ : BufTy).Contents (Elt F)) (Φ₁ (Proc.devRef .tc Cert.KernelIdeal.main_c_659)) (Φ₂ (Proc.devRef .tc Cert.ReferenceIdeal.main_c_659)) := step0 (β := ((⟨Cert.KernelIdeal.S_, .i32⟩ : BufTy).Contents (Elt F))) (eq0 (at_ fa8 (i := 39) rfl) :) (eq0 (at_ fb1 (i := 69) rfl) :)
  have e115 : @Eq ((⟨Cert.KernelIdeal.S131072, .i32⟩ : BufTy).Contents (Elt F)) (Φ₁ (Proc.devRef .tc Cert.KernelIdeal.main_v2140)) (Φ₂ (Proc.devRef .tc Cert.ReferenceIdeal.main_v2153)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 70) rfl) :) e114
  have e116 : @Eq ((⟨Cert.KernelIdeal.S131072, .i32⟩ : BufTy).Contents (Elt F)) (Φ₁ (Proc.devRef .tc Cert.KernelIdeal.main_v2141)) (Φ₂ (Proc.devRef .tc Cert.ReferenceIdeal.main_v2154)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 71) rfl) :) e74 e115
  have e117 : @Eq ((⟨Cert.KernelIdeal.S131072, .i32⟩ : BufTy).Contents (Elt F)) (Φ₁ (Proc.devRef .tc Cert.KernelIdeal.main_v2142)) (Φ₂ (Proc.devRef .tc Cert.ReferenceIdeal.main_v2155)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 72) rfl) :) e113 e116 e74
  have e118 : @Eq ((⟨Cert.KernelIdeal.S_, .i32⟩ : BufTy).Contents (Elt F)) (Φ₁ (Proc.devRef .tc Cert.KernelIdeal.main_c_660)) (Φ₂ (Proc.devRef .tc Cert.ReferenceIdeal.main_c_660)) := step0 (β := ((⟨Cert.KernelIdeal.S_, .i32⟩ : BufTy).Contents (Elt F))) (eq0 (at_ fa8 (i := 43) rfl) :) (eq0 (at_ fb1 (i := 73) rfl) :)
  have e119 : @Eq ((⟨Cert.KernelIdeal.S131072, .i32⟩ : BufTy).Contents (Elt F)) (Φ₁ (Proc.devRef .tc Cert.KernelIdeal.main_v2143)) (Φ₂ (Proc.devRef .tc Cert.ReferenceIdeal.main_v2156)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 74) rfl) :) e118
  have e120 : @Eq ((⟨Cert.KernelIdeal.S131072, .i1⟩ : BufTy).Contents (Elt F)) (Φ₁ (Proc.devRef .tc Cert.KernelIdeal.main_v2144)) (Φ₂ (Proc.devRef .tc Cert.ReferenceIdeal.main_v2157)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 0) rfl) :) e43 e119
  have e121 : @Eq ((⟨Cert.KernelIdeal.S_, .i32⟩ : BufTy).Contents (Elt F)) (Φ₁ (Proc.devRef .tc Cert.KernelIdeal.main_c_661)) (Φ₂ (Proc.devRef .tc Cert.ReferenceIdeal.main_c_661)) := step0 (β := ((⟨Cert.KernelIdeal.S_, .i32⟩ : BufTy).Contents (Elt F))) (eq0 (at_ fa8 (i := 46) rfl) :) (eq0 (at_ fb2 (i := 1) rfl) :)
  have e122 : @Eq ((⟨Cert.KernelIdeal.S131072, .i32⟩ : BufTy).Contents (Elt F)) (Φ₁ (Proc.devRef .tc Cert.KernelIdeal.main_v2145)) (Φ₂ (Proc.devRef .tc Cert.ReferenceIdeal.main_v2158)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 2) rfl) :) e121
  have e123 : @Eq ((⟨Cert.KernelIdeal.S131072, .i32⟩ : BufTy).Contents (Elt F)) (Φ₁ (Proc.devRef .tc Cert.KernelIdeal.main_v2146)) (Φ₂ (Proc.devRef .tc Cert.ReferenceIdeal.main_v2159)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 3) rfl) :) e43 e122
  have e124 : @Eq ((⟨Cert.KernelIdeal.S131072, .i32⟩ : BufTy).Contents (Elt F)) (Φ₁ (Proc.devRef .tc Cert.KernelIdeal.main_v2147)) (Φ₂ (Proc.devRef .tc Cert.ReferenceIdeal.main_v2160)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 4) rfl) :) e120 e123 e43
  have e125 : @Eq ((⟨Cert.KernelIdeal.S131072x1, .i32⟩ : BufTy).Contents (Elt F)) (Φ₁ (Proc.devRef .tc Cert.KernelIdeal.main_v2148)) (Φ₂ (Proc.devRef .tc Cert.ReferenceIdeal.main_v2161)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 5) rfl) :) e117
  have e126 : @Eq ((⟨Cert.KernelIdeal.S131072x1, .i32⟩ : BufTy).Contents (Elt F)) (Φ₁ (Proc.devRef .tc Cert.KernelIdeal.main_v2149)) (Φ₂ (Proc.devRef .tc Cert.ReferenceIdeal.main_v2162)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 6) rfl) :) e124
  have e127 : @Eq ((⟨Cert.KernelIdeal.S131072x2, .i32⟩ : BufTy).Contents (Elt F)) (Φ₁ (Proc.devRef .tc Cert.KernelIdeal.main_v2150)) (Φ₂ (Proc.devRef .tc Cert.ReferenceIdeal.main_v2163)) := by rw [eq2 (at_ fa8 (i := 52) rfl), eq2 (at_ fb2 (i := 7) rfl), e125, e126] <;> rfl
  have e128 : @Eq ((⟨Cert.KernelIdeal.S32x131072, .f32⟩ : BufTy).Contents (Elt F)) (Φ₁ (Proc.devRef .tc Cert.KernelIdeal.main_v2151)) (Φ₂ (Proc.devRef .tc Cert.ReferenceIdeal.main_v2164)) := by rw [eq2 (at_ fa8 (i := 53) rfl), eq2 (at_ fb2 (i := 8) rfl), x2, e127] <;> rfl
  have e129 : @Eq ((⟨Cert.KernelIdeal.S_, .i32⟩ : BufTy).Contents (Elt F)) (Φ₁ (Proc.devRef .tc Cert.KernelIdeal.main_c_662)) (Φ₂ (Proc.devRef .tc Cert.ReferenceIdeal.main_c_662)) := step0 (β := ((⟨Cert.KernelIdeal.S_, .i32⟩ : BufTy).Contents (Elt F))) (eq0 (at_ fa8 (i := 54) rfl) :) (eq0 (at_ fb2 (i := 9) rfl) :)
  have e130 : @Eq ((⟨Cert.KernelIdeal.S131072, .i32⟩ : BufTy).Contents (Elt F)) (Φ₁ (Proc.devRef .tc Cert.KernelIdeal.main_v2152)) (Φ₂ (Proc.devRef .tc Cert.ReferenceIdeal.main_v2165)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 10) rfl) :) e129
  have e131 : @Eq ((⟨Cert.KernelIdeal.S131072, .i1⟩ : BufTy).Contents (Elt F)) (Φ₁ (Proc.devRef .tc Cert.KernelIdeal.main_v2153)) (Φ₂ (Proc.devRef .tc Cert.ReferenceIdeal.main_v2166)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 11) rfl) :) e74 e130
  have e132 : @Eq ((⟨Cert.KernelIdeal.S_, .i32⟩ : BufTy).Contents (Elt F)) (Φ₁ (Proc.devRef .tc Cert.KernelIdeal.main_c_663)) (Φ₂ (Proc.devRef .tc Cert.ReferenceIdeal.main_c_663)) := step0 (β := ((⟨Cert.KernelIdeal.S_, .i32⟩ : BufTy).Contents (Elt F))) (eq0 (at_ fa8 (i := 57) rfl) :) (eq0 (at_ fb2 (i := 12) rfl) :)
  have e133 : @Eq ((⟨Cert.KernelIdeal.S131072, .i32⟩ : BufTy).Contents (Elt F)) (Φ₁ (Proc.devRef .tc Cert.KernelIdeal.main_v2154)) (Φ₂ (Proc.devRef .tc Cert.ReferenceIdeal.main_v2167)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 13) rfl) :) e132
  have e134 : @Eq ((⟨Cert.KernelIdeal.S131072, .i32⟩ : BufTy).Contents (Elt F)) (Φ₁ (Proc.devRef .tc Cert.KernelIdeal.main_v2155)) (Φ₂ (Proc.devRef .tc Cert.ReferenceIdeal.main_v2168)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 14) rfl) :) e74 e133
  have e135 : @Eq ((⟨Cert.KernelIdeal.S131072, .i32⟩ : BufTy).Contents (Elt F)) (Φ₁ (Proc.devRef .tc Cert.KernelIdeal.main_v2156)) (Φ₂ (Proc.devRef .tc Cert.ReferenceIdeal.main_v2169)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 15) rfl) :) e131 e134 e74
  have e136 : @Eq ((⟨Cert.KernelIdeal.S_, .i32⟩ : BufTy).Contents (Elt F)) (Φ₁ (Proc.devRef .tc Cert.KernelIdeal.main_c_664)) (Φ₂ (Proc.devRef .tc Cert.ReferenceIdeal.main_c_664)) := step0 (β := ((⟨Cert.KernelIdeal.S_, .i32⟩ : BufTy).Contents (Elt F))) (eq0 (at_ fa8 (i := 61) rfl) :) (eq0 (at_ fb2 (i := 16) rfl) :)
  have e137 : @Eq ((⟨Cert.KernelIdeal.S131072, .i32⟩ : BufTy).Contents (Elt F)) (Φ₁ (Proc.devRef .tc Cert.KernelIdeal.main_v2157)) (Φ₂ (Proc.devRef .tc Cert.ReferenceIdeal.main_v2170)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 17) rfl) :) e136
  have e138 : @Eq ((⟨Cert.KernelIdeal.S131072, .i1⟩ : BufTy).Contents (Elt F)) (Φ₁ (Proc.devRef .tc Cert.KernelIdeal.main_v2158)) (Φ₂ (Proc.devRef .tc Cert.ReferenceIdeal.main_v2171)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 18) rfl) :) e54 e137
  have e139 : @Eq ((⟨Cert.KernelIdeal.S_, .i32⟩ : BufTy).Contents (Elt F)) (Φ₁ (Proc.devRef .tc Cert.KernelIdeal.main_c_665)) (Φ₂ (Proc.devRef .tc Cert.ReferenceIdeal.main_c_665)) := step0 (β := ((⟨Cert.KernelIdeal.S_, .i32⟩ : BufTy).Contents (Elt F))) (eq0 (at_ fa8 (i := 64) rfl) :) (eq0 (at_ fb2 (i := 19) rfl) :)
  have e140 : @Eq ((⟨Cert.KernelIdeal.S131072, .i32⟩ : BufTy).Contents (Elt F)) (Φ₁ (Proc.devRef .tc Cert.KernelIdeal.main_v2159)) (Φ₂ (Proc.devRef .tc Cert.ReferenceIdeal.main_v2172)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 20) rfl) :) e139
  have e141 : @Eq ((⟨Cert.KernelIdeal.S131072, .i32⟩ : BufTy).Contents (Elt F)) (Φ₁ (Proc.devRef .tc Cert.KernelIdeal.main_v2160)) (Φ₂ (Proc.devRef .tc Cert.ReferenceIdeal.main_v2173)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 21) rfl) :) e54 e140
  have e142 : @Eq ((⟨Cert.KernelIdeal.S131072, .i32⟩ : BufTy).Contents (Elt F)) (Φ₁ (Proc.devRef .tc Cert.KernelIdeal.main_v2161)) (Φ₂ (Proc.devRef .tc Cert.ReferenceIdeal.main_v2174)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 22) rfl) :) e138 e141 e54
  have e143 : @Eq ((⟨Cert.KernelIdeal.S131072x1, .i32⟩ : BufTy).Contents (Elt F)) (Φ₁ (Proc.devRef .tc Cert.KernelIdeal.main_v2162)) (Φ₂ (Proc.devRef .tc Cert.ReferenceIdeal.main_v2175)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 23) rfl) :) e135
  have e144 : @Eq ((⟨Cert.KernelIdeal.S131072x1, .i32⟩ : BufTy).Contents (Elt F)) (Φ₁ (Proc.devRef .tc Cert.KernelIdeal.main_v2163)) (Φ₂ (Proc.devRef .tc Cert.ReferenceIdeal.main_v2176)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 24) rfl) :) e142
  have e145 : @Eq ((⟨Cert.KernelIdeal.S131072x2, .i32⟩ : BufTy).Contents (Elt F)) (Φ₁ (Proc.devRef .tc Cert.KernelIdeal.main_v2164)) (Φ₂ (Proc.devRef .tc Cert.ReferenceIdeal.main_v2177)) := by rw [eq2 (at_ fa8 (i := 70) rfl), eq2 (at_ fb2 (i := 25) rfl), e143, e144] <;> rfl
  have e146 : @Eq ((⟨Cert.KernelIdeal.S32x131072, .f32⟩ : BufTy).Contents (Elt F)) (Φ₁ (Proc.devRef .tc Cert.KernelIdeal.main_v2165)) (Φ₂ (Proc.devRef .tc Cert.ReferenceIdeal.main_v2178)) := by rw [eq2 (at_ fa8 (i := 71) rfl), eq2 (at_ fb2 (i := 26) rfl), x2, e145] <;> rfl
  have e147 : @Eq ((⟨Cert.KernelIdeal.S_, .f32⟩ : BufTy).Contents (Elt F)) (Φ₁ (Proc.devRef .tc Cert.KernelIdeal.main_cst_666)) (Φ₂ (Proc.devRef .tc Cert.ReferenceIdeal.main_cst_666)) := step0 (β := ((⟨Cert.KernelIdeal.S_, .f32⟩ : BufTy).Contents (Elt F))) (eq0 (at_ fa8 (i := 72) rfl) :) (eq0 (at_ fb2 (i := 27) rfl) :)
  have e148 : @Eq ((⟨Cert.KernelIdeal.S131072, .f32⟩ : BufTy).Contents (Elt F)) (Φ₁ (Proc.devRef .tc Cert.KernelIdeal.main_v2166)) (Φ₂ (Proc.devRef .tc Cert.ReferenceIdeal.main_v2179)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 28) rfl) :) e147
  have e149 : @Eq ((⟨Cert.KernelIdeal.S131072, .f32⟩ : BufTy).Contents (Elt F)) (Φ₁ (Proc.devRef .tc Cert.KernelIdeal.main_v2167)) (Φ₂ (Proc.devRef .tc Cert.ReferenceIdeal.main_v2180)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 29) rfl) :) e148 e33
  have e150 : @Eq ((⟨Cert.KernelIdeal.S1x131072, .f32⟩ : BufTy).Contents (Elt F)) (Φ₁ (Proc.devRef .tc Cert.KernelIdeal.main_v2168)) (Φ₂ (Proc.devRef .tc Cert.ReferenceIdeal.main_v2181)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 30) rfl) :) e149
  have e151 : @Eq ((⟨Cert.KernelIdeal.S32x131072, .f32⟩ : BufTy).Contents (Elt F)) (Φ₁ (Proc.devRef .tc Cert.KernelIdeal.main_v2169)) (Φ₂ (Proc.devRef .tc Cert.ReferenceIdeal.main_v2182)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 31) rfl) :) e150
  have e152 : @Eq ((⟨Cert.KernelIdeal.S32x131072, .f32⟩ : BufTy).Contents (Elt F)) (Φ₁ (Proc.devRef .tc Cert.KernelIdeal.main_v2170)) (Φ₂ (Proc.devRef .tc Cert.ReferenceIdeal.main_v2183)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 32) rfl) :) e92 e151
  have e153 : @Eq ((⟨Cert.KernelIdeal.S_, .f32⟩ : BufTy).Contents (Elt F)) (Φ₁ (Proc.devRef .tc Cert.KernelIdeal.main_cst_667)) (Φ₂ (Proc.devRef .tc Cert.ReferenceIdeal.main_cst_667)) := step0 (β := ((⟨Cert.KernelIdeal.S_, .f32⟩ : BufTy).Contents (Elt F))) (eq0 (at_ fa8 (i := 78) rfl) :) (eq0 (at_ fb2 (i := 33) rfl) :)
  have e154 : @Eq ((⟨Cert.KernelIdeal.S131072, .f32⟩ : BufTy).Contents (Elt F)) (Φ₁ (Proc.devRef .tc Cert.KernelIdeal.main_v2171)) (Φ₂ (Proc.devRef .tc Cert.ReferenceIdeal.main_v2184)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 34) rfl) :) e153
  have e155 : @Eq ((⟨Cert.KernelIdeal.S131072, .f32⟩ : BufTy).Contents (Elt F)) (Φ₁ (Proc.devRef .tc Cert.KernelIdeal.main_v2172)) (Φ₂ (Proc.devRef .tc Cert.ReferenceIdeal.main_v2185)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 35) rfl) :) e154 e34
  have e156 : @Eq ((⟨Cert.KernelIdeal.S1x131072, .f32⟩ : BufTy).Contents (Elt F)) (Φ₁ (Proc.devRef .tc Cert.KernelIdeal.main_v2173)) (Φ₂ (Proc.devRef .tc Cert.ReferenceIdeal.main_v2186)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 36) rfl) :) e155
  have e157 : @Eq ((⟨Cert.KernelIdeal.S32x131072, .f32⟩ : BufTy).Contents (Elt F)) (Φ₁ (Proc.devRef .tc Cert.KernelIdeal.main_v2174)) (Φ₂ (Proc.devRef .tc Cert.ReferenceIdeal.main_v2187)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 37) rfl) :) e156
  have e158 : @Eq ((⟨Cert.KernelIdeal.S32x131072, .f32⟩ : BufTy).Contents (Elt F)) (Φ₁ (Proc.devRef .tc Cert.KernelIdeal.main_v2175)) (Φ₂ (Proc.devRef .tc Cert.ReferenceIdeal.main_v2188)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 38) rfl) :) e152 e157
  have e159 : @Eq ((⟨Cert.KernelIdeal.S1x131072, .f32⟩ : BufTy).Contents (Elt F)) (Φ₁ (Proc.devRef .tc Cert.KernelIdeal.main_v2176)) (Φ₂ (Proc.devRef .tc Cert.ReferenceIdeal.main_v2189)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 39) rfl) :) e33
  have e160 : @Eq ((⟨Cert.KernelIdeal.S32x131072, .f32⟩ : BufTy).Contents (Elt F)) (Φ₁ (Proc.devRef .tc Cert.KernelIdeal.main_v2177)) (Φ₂ (Proc.devRef .tc Cert.ReferenceIdeal.main_v2190)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 40) rfl) :) e159
  have e161 : @Eq ((⟨Cert.KernelIdeal.S32x131072, .f32⟩ : BufTy).Contents (Elt F)) (Φ₁ (Proc.devRef .tc Cert.KernelIdeal.main_v2178)) (Φ₂ (Proc.devRef .tc Cert.ReferenceIdeal.main_v2191)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 41) rfl) :) e110 e160
  have e162 : @Eq ((⟨Cert.KernelIdeal.S_, .f32⟩ : BufTy).Contents (Elt F)) (Φ₁ (Proc.devRef .tc Cert.KernelIdeal.main_cst_668)) (Φ₂ (Proc.devRef .tc Cert.ReferenceIdeal.main_cst_668)) := step0 (β := ((⟨Cert.KernelIdeal.S_, .f32⟩ : BufTy).Contents (Elt F))) (eq0 (at_ fa8 (i := 87) rfl) :) (eq0 (at_ fb2 (i := 42) rfl) :)
  have e163 : @Eq ((⟨Cert.KernelIdeal.S131072, .f32⟩ : BufTy).Contents (Elt F)) (Φ₁ (Proc.devRef .tc Cert.KernelIdeal.main_v2179)) (Φ₂ (Proc.devRef .tc Cert.ReferenceIdeal.main_v2192)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 43) rfl) :) e162
  have e164 : @Eq ((⟨Cert.KernelIdeal.S131072, .f32⟩ : BufTy).Contents (Elt F)) (Φ₁ (Proc.devRef .tc Cert.KernelIdeal.main_v2180)) (Φ₂ (Proc.devRef .tc Cert.ReferenceIdeal.main_v2193)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 44) rfl) :) e163 e34
  have e165 : @Eq ((⟨Cert.KernelIdeal.S1x131072, .f32⟩ : BufTy).Contents (Elt F)) (Φ₁ (Proc.devRef .tc Cert.KernelIdeal.main_v2181)) (Φ₂ (Proc.devRef .tc Cert.ReferenceIdeal.main_v2194)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 45) rfl) :) e164
  have e166 : @Eq ((⟨Cert.KernelIdeal.S32x131072, .f32⟩ : BufTy).Contents (Elt F)) (Φ₁ (Proc.devRef .tc Cert.KernelIdeal.main_v2182)) (Φ₂ (Proc.devRef .tc Cert.ReferenceIdeal.main_v2195)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 46) rfl) :) e165
  have e167 : @Eq ((⟨Cert.KernelIdeal.S32x131072, .f32⟩ : BufTy).Contents (Elt F)) (Φ₁ (Proc.devRef .tc Cert.KernelIdeal.main_v2183)) (Φ₂ (Proc.devRef .tc Cert.ReferenceIdeal.main_v2196)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 47) rfl) :) e161 e166
  have e168 : @Eq ((⟨Cert.KernelIdeal.S32x131072, .f32⟩ : BufTy).Contents (Elt F)) (Φ₁ (Proc.devRef .tc Cert.KernelIdeal.main_v2184)) (Φ₂ (Proc.devRef .tc Cert.ReferenceIdeal.main_v2197)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 48) rfl) :) e158 e167
  have e169 : @Eq ((⟨Cert.KernelIdeal.S_, .f32⟩ : BufTy).Contents (Elt F)) (Φ₁ (Proc.devRef .tc Cert.KernelIdeal.main_cst_669)) (Φ₂ (Proc.devRef .tc Cert.ReferenceIdeal.main_cst_669)) := step0 (β := ((⟨Cert.KernelIdeal.S_, .f32⟩ : BufTy).Contents (Elt F))) (eq0 (at_ fa8 (i := 94) rfl) :) (eq0 (at_ fb2 (i := 49) rfl) :)
  have e170 : @Eq ((⟨Cert.KernelIdeal.S131072, .f32⟩ : BufTy).Contents (Elt F)) (Φ₁ (Proc.devRef .tc Cert.KernelIdeal.main_v2185)) (Φ₂ (Proc.devRef .tc Cert.ReferenceIdeal.main_v2198)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 50) rfl) :) e169
  have e171 : @Eq ((⟨Cert.KernelIdeal.S131072, .f32⟩ : BufTy).Contents (Elt F)) (Φ₁ (Proc.devRef .tc Cert.KernelIdeal.main_v2186)) (Φ₂ (Proc.devRef .tc Cert.ReferenceIdeal.main_v2199)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 51) rfl) :) e170 e33
  have e172 : @Eq ((⟨Cert.KernelIdeal.S1x131072, .f32⟩ : BufTy).Contents (Elt F)) (Φ₁ (Proc.devRef .tc Cert.KernelIdeal.main_v2187)) (Φ₂ (Proc.devRef .tc Cert.ReferenceIdeal.main_v2200)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 52) rfl) :) e171
  have e173 : @Eq ((⟨Cert.KernelIdeal.S32x131072, .f32⟩ : BufTy).Contents (Elt F)) (Φ₁ (Proc.devRef .tc Cert.KernelIdeal.main_v2188)) (Φ₂ (Proc.devRef .tc Cert.ReferenceIdeal.main_v2201)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 53) rfl) :) e172
  have e174 : @Eq ((⟨Cert.KernelIdeal.S32x131072, .f32⟩ : BufTy).Contents (Elt F)) (Φ₁ (Proc.devRef .tc Cert.KernelIdeal.main_v2189)) (Φ₂ (Proc.devRef .tc Cert.ReferenceIdeal.main_v2202)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 54) rfl) :) e128 e173
  have e175 : @Eq ((⟨Cert.KernelIdeal.S1x131072, .f32⟩ : BufTy).Contents (Elt F)) (Φ₁ (Proc.devRef .tc Cert.KernelIdeal.main_v2190)) (Φ₂ (Proc.devRef .tc Cert.ReferenceIdeal.main_v2203)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 55) rfl) :) e34
  have e176 : @Eq ((⟨Cert.KernelIdeal.S32x131072, .f32⟩ : BufTy).Contents (Elt F)) (Φ₁ (Proc.devRef .tc Cert.KernelIdeal.main_v2191)) (Φ₂ (Proc.devRef .tc Cert.ReferenceIdeal.main_v2204)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 56) rfl) :) e175
  have e177 : @Eq ((⟨Cert.KernelIdeal.S32x131072, .f32⟩ : BufTy).Contents (Elt F)) (Φ₁ (Proc.devRef .tc Cert.KernelIdeal.main_v2192)) (Φ₂ (Proc.devRef .tc Cert.ReferenceIdeal.main_v2205)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 57) rfl) :) e174 e176
  have e178 : @Eq ((⟨Cert.KernelIdeal.S32x131072, .f32⟩ : BufTy).Contents (Elt F)) (Φ₁ (Proc.devRef .tc Cert.KernelIdeal.main_v2193)) (Φ₂ (Proc.devRef .tc Cert.ReferenceIdeal.main_v2206)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 58) rfl) :) e168 e177
  have e179 : @Eq ((⟨Cert.KernelIdeal.S1x131072, .f32⟩ : BufTy).Contents (Elt F)) (Φ₁ (Proc.devRef .tc Cert.KernelIdeal.main_v2194)) (Φ₂ (Proc.devRef .tc Cert.ReferenceIdeal.main_v2207)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 59) rfl) :) e33
  have e180 : @Eq ((⟨Cert.KernelIdeal.S32x131072, .f32⟩ : BufTy).Contents (Elt F)) (Φ₁ (Proc.devRef .tc Cert.KernelIdeal.main_v2195)) (Φ₂ (Proc.devRef .tc Cert.ReferenceIdeal.main_v2208)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 0) rfl) :) e179
  have e181 : @Eq ((⟨Cert.KernelIdeal.S32x131072, .f32⟩ : BufTy).Contents (Elt F)) (Φ₁ (Proc.devRef .tc Cert.KernelIdeal.main_v2196)) (Φ₂ (Proc.devRef .tc Cert.ReferenceIdeal.main_v2209)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 1) rfl) :) e146 e180
  have e182 : @Eq ((⟨Cert.KernelIdeal.S1x131072, .f32⟩ : BufTy).Contents (Elt F)) (Φ₁ (Proc.devRef .tc Cert.KernelIdeal.main_v2197)) (Φ₂ (Proc.devRef .tc Cert.ReferenceIdeal.main_v2210)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 2) rfl) :) e34
  have e183 : @Eq ((⟨Cert.KernelIdeal.S32x131072, .f32⟩ : BufTy).Contents (Elt F)) (Φ₁ (Proc.devRef .tc Cert.KernelIdeal.main_v2198)) (Φ₂ (Proc.devRef .tc Cert.ReferenceIdeal.main_v2211)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 3) rfl) :) e182
  have e184 : @Eq ((⟨Cert.KernelIdeal.S32x131072, .f32⟩ : BufTy).Contents (Elt F)) (Φ₁ (Proc.devRef .tc Cert.KernelIdeal.main_v2199)) (Φ₂ (Proc.devRef .tc Cert.ReferenceIdeal.main_v2212)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 4) rfl) :) e181 e183
  have e185 : @Eq ((⟨Cert.KernelIdeal.S32x131072, .f32⟩ : BufTy).Contents (Elt F)) (Φ₁ (Proc.devRef .tc Cert.KernelIdeal.main_v2200)) (Φ₂ (Proc.devRef .tc Cert.ReferenceIdeal.main_v2213)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 5) rfl) :) e178 e184
  have e186 : @Eq ((⟨Cert.KernelIdeal.S131072x32, .f32⟩ : BufTy).Contents (Elt F)) (Φ₁ (Proc.devRef .tc Cert.KernelIdeal.main_v2201)) (Φ₂ (Proc.devRef .tc Cert.ReferenceIdeal.main_v2214)) := by rw [eq1 (at_ fa8 (i := 111) rfl), eq1 (at_ fb3 (i := 6) rfl), e185] <;> rfl
  exact e186

end Cert.Bridge

end
-- ==== Proof.SimB17.lean ====
/- Operations 3214 … 3400 of the one program and 3228 … 3414 of the other apply the same functions to corresponding
   buffers. If both programs' final contents satisfy their own lines' equations and agree on the buffers these operations
   read from outside, they agree on what these operations write: one congruence per operation, in program order. -/
import proofs.«133805_j10187662426200_2_alg».proof.Proof.KIStretch3
import proofs.«133805_j10187662426200_2_alg».proof.Proof.RefOps6
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B17 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_136 : List (HloOp Cert.KernelIdeal.τ Cert.KernelIdeal.sig (Elt F))).Forall fun op => ∀ b ∈ op.writes, Φ₁ b = op.result Φ₁ b)
    (fa1 : (Cert.KernelIdeal.Gen.hostOps0_137 : List (HloOp Cert.KernelIdeal.τ Cert.KernelIdeal.sig (Elt F))).Forall fun op => ∀ b ∈ op.writes, Φ₁ b = op.result Φ₁ b)
    (fa2 : (Cert.KernelIdeal.Gen.hostOps0_138 : List (HloOp Cert.KernelIdeal.τ Cert.KernelIdeal.sig (Elt F))).Forall fun op => ∀ b ∈ op.writes, Φ₁ b = op.result Φ₁ b)
    (fa3 : (Cert.KernelIdeal.Gen.hostOps0_139 : List (HloOp Cert.KernelIdeal.τ Cert.KernelIdeal.sig (Elt F))).Forall fun op => ∀ b ∈ op.writes, Φ₁ b = op.result Φ₁ b)
    (fa4 : (Cert.KernelIdeal.Gen.hostOps0_140 : List (HloOp Cert.KernelIdeal.τ Cert.KernelIdeal.sig (Elt F))).Forall fun op => ∀ b ∈ op.writes, Φ₁ b = op.result Φ₁ b)
    (fa5 : (Cert.KernelIdeal.Gen.hostOps0_141 : List (HloOp Cert.KernelIdeal.τ Cert.KernelIdeal.sig (Elt F))).Forall fun op => ∀ b ∈ op.writes, Φ₁ b = op.result Φ₁ b)
    (fa6 : (Cert.KernelIdeal.Gen.hostOps0_142 : List (HloOp Cert.KernelIdeal.τ Cert.KernelIdeal.sig (Elt F))).Forall fun op => ∀ b ∈ op.writes, Φ₁ b = op.result Φ₁ b)
    (fa7 : (Cert.KernelIdeal.Gen.hostOps0_143 : List (HloOp Cert.KernelIdeal.τ Cert.KernelIdeal.sig (Elt F))).Forall fun op => ∀ b ∈ op.writes, Φ₁ b = op.result Φ₁ b)
    (fa8 : (Cert.KernelIdeal.Gen.hostOps0_144 : List (HloOp Cert.KernelIdeal.τ Cert.KernelIdeal.sig (Elt F))).Forall fun op => ∀ b ∈ op.writes, Φ₁ b = op.result Φ₁ b)
    (fb0 : (Cert.ReferenceIdeal.Ops.w48 : List (HloOp Cert.ReferenceIdeal.τ Cert.ReferenceIdeal.sig (Elt F))).Forall fun op => ∀ b ∈ op.writes, Φ₂ b = op.result Φ₂ b)
    (fb1 : (Cert.ReferenceIdeal.Ops.w49 : List (HloOp Cert.ReferenceIdeal.τ Cert.ReferenceIdeal.sig (Elt F))).Forall fun op => ∀ b ∈ op.writes, Φ₂ b = op.result Φ₂ b)
    (fb2 : (Cert.ReferenceIdeal.Ops.w50 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_16)) (Φ₂ (Proc.devRef .tc Cert.ReferenceIdeal.main_c_16)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x256, .f32⟩ : BufTy).Contents (Elt F)) (Φ₁ (Proc.devRef .tc Cert.KernelIdeal.main_arg19)) (Φ₂ (Proc.devRef .tc Cert.ReferenceIdeal.main_arg19)))
    : @Eq ((⟨Cert.KernelIdeal.S131072x32, .f32⟩ : BufTy).Contents (Elt F)) (Φ₁ (Proc.devRef .tc Cert.KernelIdeal.main_v2330)) (Φ₂ (Proc.devRef .tc Cert.ReferenceIdeal.main_v2344)) := by
  have e0 : @Eq ((⟨Cert.KernelIdeal.S_, .i32⟩ : BufTy).Contents (Elt F)) (Φ₁ (Proc.devRef .tc Cert.KernelIdeal.main_c_670)) (Φ₂ (Proc.devRef .tc Cert.ReferenceIdeal.main_c_670)) := step0 (β := ((⟨Cert.KernelIdeal.S_, .i32⟩ : BufTy).Contents (Elt F))) (eq0 (at_ fa0 (i := 112) rfl) :) (eq0 (at_ fb0 (i := 8) rfl) :)
  have e1 : @Eq ((⟨Cert.KernelIdeal.S2, .i32⟩ : BufTy).Contents (Elt F)) (Φ₁ (Proc.devRef .tc Cert.KernelIdeal.main_v2202)) (Φ₂ (Proc.devRef .tc Cert.ReferenceIdeal.main_v2216)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 9) rfl) :) e0
  have e2 : @Eq ((⟨Cert.KernelIdeal.S2, .i1⟩ : BufTy).Contents (Elt F)) (Φ₁ (Proc.devRef .tc Cert.KernelIdeal.main_v2203)) (Φ₂ (Proc.devRef .tc Cert.ReferenceIdeal.main_v2217)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 10) rfl) :) x0 e1
  have e3 : @Eq ((⟨Cert.KernelIdeal.S_, .i32⟩ : BufTy).Contents (Elt F)) (Φ₁ (Proc.devRef .tc Cert.KernelIdeal.main_c_671)) (Φ₂ (Proc.devRef .tc Cert.ReferenceIdeal.main_c_671)) := step0 (β := ((⟨Cert.KernelIdeal.S_, .i32⟩ : BufTy).Contents (Elt F))) (eq0 (at_ fa0 (i := 115) rfl) :) (eq0 (at_ fb0 (i := 11) rfl) :)
  have e4 : @Eq ((⟨Cert.KernelIdeal.S2, .i32⟩ : BufTy).Contents (Elt F)) (Φ₁ (Proc.devRef .tc Cert.KernelIdeal.main_v2204)) (Φ₂ (Proc.devRef .tc Cert.ReferenceIdeal.main_v2218)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 12) rfl) :) e3
  have e5 : @Eq ((⟨Cert.KernelIdeal.S2, .i32⟩ : BufTy).Contents (Elt F)) (Φ₁ (Proc.devRef .tc Cert.KernelIdeal.main_v2205)) (Φ₂ (Proc.devRef .tc Cert.ReferenceIdeal.main_v2219)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 13) rfl) :) x0 e4
  have e6 : @Eq ((⟨Cert.KernelIdeal.S2, .i32⟩ : BufTy).Contents (Elt F)) (Φ₁ (Proc.devRef .tc Cert.KernelIdeal.main_v2206)) (Φ₂ (Proc.devRef .tc Cert.ReferenceIdeal.main_v2220)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 14) rfl) :) e2 e5 x0
  have e7 : @Eq ((⟨Cert.KernelIdeal.S2x1, .i32⟩ : BufTy).Contents (Elt F)) (Φ₁ (Proc.devRef .tc Cert.KernelIdeal.main_v2207)) (Φ₂ (Proc.devRef .tc Cert.ReferenceIdeal.main_v2221)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 15) rfl) :) e6
  have e8 : @Eq ((⟨Cert.KernelIdeal.S131072x2, .f32⟩ : BufTy).Contents (Elt F)) (Φ₁ (Proc.devRef .tc Cert.KernelIdeal.main_v2208)) (Φ₂ (Proc.devRef .tc Cert.ReferenceIdeal.main_v2222)) := by rw [eq2 (at_ fa0 (i := 120) rfl), eq2 (at_ fb0 (i := 16) rfl), x1, e7] <;> rfl
  have e9 : @Eq ((⟨Cert.KernelIdeal.S131072x1, .f32⟩ : BufTy).Contents (Elt F)) (Φ₁ (Proc.devRef .tc Cert.KernelIdeal.main_v2209)) (Φ₂ (Proc.devRef .tc Cert.ReferenceIdeal.main_v2223)) := by rw [eq1 (at_ fa0 (i := 121) rfl), eq1 (at_ fb0 (i := 17) rfl), e8] <;> rfl
  have e10 : @Eq ((⟨Cert.KernelIdeal.S131072, .f32⟩ : BufTy).Contents (Elt F)) (Φ₁ (Proc.devRef .tc Cert.KernelIdeal.main_v2210)) (Φ₂ (Proc.devRef .tc Cert.ReferenceIdeal.main_v2224)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 18) rfl) :) e9
  have e11 : @Eq ((⟨Cert.KernelIdeal.S_, .f32⟩ : BufTy).Contents (Elt F)) (Φ₁ (Proc.devRef .tc Cert.KernelIdeal.main_cst_672)) (Φ₂ (Proc.devRef .tc Cert.ReferenceIdeal.main_cst_672)) := step0 (β := ((⟨Cert.KernelIdeal.S_, .f32⟩ : BufTy).Contents (Elt F))) (eq0 (at_ fa0 (i := 123) rfl) :) (eq0 (at_ fb0 (i := 19) rfl) :)
  have e12 : @Eq ((⟨Cert.KernelIdeal.S131072, .f32⟩ : BufTy).Contents (Elt F)) (Φ₁ (Proc.devRef .tc Cert.KernelIdeal.main_v2211)) (Φ₂ (Proc.devRef .tc Cert.ReferenceIdeal.main_v2225)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 20) rfl) :) e11
  have e13 : @Eq ((⟨Cert.KernelIdeal.S131072, .f32⟩ : BufTy).Contents (Elt F)) (Φ₁ (Proc.devRef .tc Cert.KernelIdeal.main_v2212)) (Φ₂ (Proc.devRef .tc Cert.ReferenceIdeal.main_v2226)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 21) rfl) :) e10 e12
  have e14 : @Eq ((⟨Cert.KernelIdeal.S_, .f32⟩ : BufTy).Contents (Elt F)) (Φ₁ (Proc.devRef .tc Cert.KernelIdeal.main_cst_673)) (Φ₂ (Proc.devRef .tc Cert.ReferenceIdeal.main_cst_673)) := step0 (β := ((⟨Cert.KernelIdeal.S_, .f32⟩ : BufTy).Contents (Elt F))) (eq0 (at_ fa0 (i := 126) rfl) :) (eq0 (at_ fb0 (i := 22) rfl) :)
  have e15 : @Eq ((⟨Cert.KernelIdeal.S131072, .f32⟩ : BufTy).Contents (Elt F)) (Φ₁ (Proc.devRef .tc Cert.KernelIdeal.main_v2213)) (Φ₂ (Proc.devRef .tc Cert.ReferenceIdeal.main_v2227)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 23) rfl) :) e14
  have e16 : @Eq ((⟨Cert.KernelIdeal.S131072, .f32⟩ : BufTy).Contents (Elt F)) (Φ₁ (Proc.devRef .tc Cert.KernelIdeal.main_v2214)) (Φ₂ (Proc.devRef .tc Cert.ReferenceIdeal.main_v2228)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 24) rfl) :) e13 e15
  have e17 : @Eq ((⟨Cert.KernelIdeal.S_, .f32⟩ : BufTy).Contents (Elt F)) (Φ₁ (Proc.devRef .tc Cert.KernelIdeal.main_cst_674)) (Φ₂ (Proc.devRef .tc Cert.ReferenceIdeal.main_cst_674)) := step0 (β := ((⟨Cert.KernelIdeal.S_, .f32⟩ : BufTy).Contents (Elt F))) (eq0 (at_ fa0 (i := 129) rfl) :) (eq0 (at_ fb0 (i := 25) rfl) :)
  have e18 : @Eq ((⟨Cert.KernelIdeal.S131072, .f32⟩ : BufTy).Contents (Elt F)) (Φ₁ (Proc.devRef .tc Cert.KernelIdeal.main_v2215)) (Φ₂ (Proc.devRef .tc Cert.ReferenceIdeal.main_v2229)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 26) rfl) :) e17
  have e19 : @Eq ((⟨Cert.KernelIdeal.S131072, .f32⟩ : BufTy).Contents (Elt F)) (Φ₁ (Proc.devRef .tc Cert.KernelIdeal.main_v2216)) (Φ₂ (Proc.devRef .tc Cert.ReferenceIdeal.main_v2230)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 27) rfl) :) e16 e18
  have e20 : @Eq ((⟨Cert.KernelIdeal.S131072x1, .f32⟩ : BufTy).Contents (Elt F)) (Φ₁ (Proc.devRef .tc Cert.KernelIdeal.main_v2217)) (Φ₂ (Proc.devRef .tc Cert.ReferenceIdeal.main_v2231)) := by rw [eq1 (at_ fa0 (i := 132) rfl), eq1 (at_ fb0 (i := 28) rfl), e8] <;> rfl
  have e21 : @Eq ((⟨Cert.KernelIdeal.S131072, .f32⟩ : BufTy).Contents (Elt F)) (Φ₁ (Proc.devRef .tc Cert.KernelIdeal.main_v2218)) (Φ₂ (Proc.devRef .tc Cert.ReferenceIdeal.main_v2232)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 29) rfl) :) e20
  have e22 : @Eq ((⟨Cert.KernelIdeal.S_, .f32⟩ : BufTy).Contents (Elt F)) (Φ₁ (Proc.devRef .tc Cert.KernelIdeal.main_cst_675)) (Φ₂ (Proc.devRef .tc Cert.ReferenceIdeal.main_cst_675)) := step0 (β := ((⟨Cert.KernelIdeal.S_, .f32⟩ : BufTy).Contents (Elt F))) (eq0 (at_ fa0 (i := 134) rfl) :) (eq0 (at_ fb0 (i := 30) rfl) :)
  have e23 : @Eq ((⟨Cert.KernelIdeal.S131072, .f32⟩ : BufTy).Contents (Elt F)) (Φ₁ (Proc.devRef .tc Cert.KernelIdeal.main_v2219)) (Φ₂ (Proc.devRef .tc Cert.ReferenceIdeal.main_v2233)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 31) rfl) :) e22
  have e24 : @Eq ((⟨Cert.KernelIdeal.S131072, .f32⟩ : BufTy).Contents (Elt F)) (Φ₁ (Proc.devRef .tc Cert.KernelIdeal.main_v2220)) (Φ₂ (Proc.devRef .tc Cert.ReferenceIdeal.main_v2234)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 32) rfl) :) e21 e23
  have e25 : @Eq ((⟨Cert.KernelIdeal.S_, .f32⟩ : BufTy).Contents (Elt F)) (Φ₁ (Proc.devRef .tc Cert.KernelIdeal.main_cst_676)) (Φ₂ (Proc.devRef .tc Cert.ReferenceIdeal.main_cst_676)) := step0 (β := ((⟨Cert.KernelIdeal.S_, .f32⟩ : BufTy).Contents (Elt F))) (eq0 (at_ fa0 (i := 137) rfl) :) (eq0 (at_ fb0 (i := 33) rfl) :)
  have e26 : @Eq ((⟨Cert.KernelIdeal.S131072, .f32⟩ : BufTy).Contents (Elt F)) (Φ₁ (Proc.devRef .tc Cert.KernelIdeal.main_v2221)) (Φ₂ (Proc.devRef .tc Cert.ReferenceIdeal.main_v2235)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 34) rfl) :) e25
  have e27 : @Eq ((⟨Cert.KernelIdeal.S131072, .f32⟩ : BufTy).Contents (Elt F)) (Φ₁ (Proc.devRef .tc Cert.KernelIdeal.main_v2222)) (Φ₂ (Proc.devRef .tc Cert.ReferenceIdeal.main_v2236)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 35) rfl) :) e24 e26
  have e28 : @Eq ((⟨Cert.KernelIdeal.S_, .f32⟩ : BufTy).Contents (Elt F)) (Φ₁ (Proc.devRef .tc Cert.KernelIdeal.main_cst_677)) (Φ₂ (Proc.devRef .tc Cert.ReferenceIdeal.main_cst_677)) := step0 (β := ((⟨Cert.KernelIdeal.S_, .f32⟩ : BufTy).Contents (Elt F))) (eq0 (at_ fa0 (i := 140) rfl) :) (eq0 (at_ fb0 (i := 36) rfl) :)
  have e29 : @Eq ((⟨Cert.KernelIdeal.S131072, .f32⟩ : BufTy).Contents (Elt F)) (Φ₁ (Proc.devRef .tc Cert.KernelIdeal.main_v2223)) (Φ₂ (Proc.devRef .tc Cert.ReferenceIdeal.main_v2237)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 37) rfl) :) e28
  have e30 : @Eq ((⟨Cert.KernelIdeal.S131072, .f32⟩ : BufTy).Contents (Elt F)) (Φ₁ (Proc.devRef .tc Cert.KernelIdeal.main_v2224)) (Φ₂ (Proc.devRef .tc Cert.ReferenceIdeal.main_v2238)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 38) rfl) :) e27 e29
  have e31 : @Eq ((⟨Cert.KernelIdeal.S131072, .f32⟩ : BufTy).Contents (Elt F)) (Φ₁ (Proc.devRef .tc Cert.KernelIdeal.main_v2225)) (Φ₂ (Proc.devRef .tc Cert.ReferenceIdeal.main_v2239)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 39) rfl) :) e19
  have e32 : @Eq ((⟨Cert.KernelIdeal.S131072, .f32⟩ : BufTy).Contents (Elt F)) (Φ₁ (Proc.devRef .tc Cert.KernelIdeal.main_v2226)) (Φ₂ (Proc.devRef .tc Cert.ReferenceIdeal.main_v2240)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 40) rfl) :) e30
  have e33 : @Eq ((⟨Cert.KernelIdeal.S131072, .f32⟩ : BufTy).Contents (Elt F)) (Φ₁ (Proc.devRef .tc Cert.KernelIdeal.main_v2227)) (Φ₂ (Proc.devRef .tc Cert.ReferenceIdeal.main_v2241)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 41) rfl) :) e19 e31
  have e34 : @Eq ((⟨Cert.KernelIdeal.S131072, .f32⟩ : BufTy).Contents (Elt F)) (Φ₁ (Proc.devRef .tc Cert.KernelIdeal.main_v2228)) (Φ₂ (Proc.devRef .tc Cert.ReferenceIdeal.main_v2242)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 42) rfl) :) e30 e32
  have e35 : @Eq ((⟨Cert.KernelIdeal.S131072, .i32⟩ : BufTy).Contents (Elt F)) (Φ₁ (Proc.devRef .tc Cert.KernelIdeal.main_v2229)) (Φ₂ (Proc.devRef .tc Cert.ReferenceIdeal.main_v2243)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 43) rfl) :) e31
  have e36 : @Eq ((⟨Cert.KernelIdeal.S_, .i32⟩ : BufTy).Contents (Elt F)) (Φ₁ (Proc.devRef .tc Cert.KernelIdeal.main_c_678)) (Φ₂ (Proc.devRef .tc Cert.ReferenceIdeal.main_c_678)) := step0 (β := ((⟨Cert.KernelIdeal.S_, .i32⟩ : BufTy).Contents (Elt F))) (eq0 (at_ fa0 (i := 148) rfl) :) (eq0 (at_ fb0 (i := 44) rfl) :)
  have e37 : @Eq ((⟨Cert.KernelIdeal.S_, .i32⟩ : BufTy).Contents (Elt F)) (Φ₁ (Proc.devRef .tc Cert.KernelIdeal.main_c_679)) (Φ₂ (Proc.devRef .tc Cert.ReferenceIdeal.main_c_679)) := step0 (β := ((⟨Cert.KernelIdeal.S_, .i32⟩ : BufTy).Contents (Elt F))) (eq0 (at_ fa0 (i := 149) rfl) :) (eq0 (at_ fb0 (i := 45) rfl) :)
  have e38 : @Eq ((⟨Cert.KernelIdeal.S_, .i32⟩ : BufTy).Contents (Elt F)) (Φ₁ (Proc.devRef .tc Cert.KernelIdeal.main_call68_v0)) (Φ₂ (Proc.devRef .tc Cert.ReferenceIdeal.main_call68_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 46) rfl) :) e36
  have e39 : @Eq ((⟨Cert.KernelIdeal.S131072, .i32⟩ : BufTy).Contents (Elt F)) (Φ₁ (Proc.devRef .tc Cert.KernelIdeal.main_call68_v1)) (Φ₂ (Proc.devRef .tc Cert.ReferenceIdeal.main_call68_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 47) rfl) :) e38
  have e40 : @Eq ((⟨Cert.KernelIdeal.S131072, .i32⟩ : BufTy).Contents (Elt F)) (Φ₁ (Proc.devRef .tc Cert.KernelIdeal.main_call68_v2)) (Φ₂ (Proc.devRef .tc Cert.ReferenceIdeal.main_call68_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 48) rfl) :) e39 e35
  have e41 : @Eq ((⟨Cert.KernelIdeal.S_, .i32⟩ : BufTy).Contents (Elt F)) (Φ₁ (Proc.devRef .tc Cert.KernelIdeal.main_call68_v3)) (Φ₂ (Proc.devRef .tc Cert.ReferenceIdeal.main_call68_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 49) rfl) :) e37
  have e42 : @Eq ((⟨Cert.KernelIdeal.S131072, .i32⟩ : BufTy).Contents (Elt F)) (Φ₁ (Proc.devRef .tc Cert.KernelIdeal.main_call68_v4)) (Φ₂ (Proc.devRef .tc Cert.ReferenceIdeal.main_call68_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 50) rfl) :) e41
  have e43 : @Eq ((⟨Cert.KernelIdeal.S131072, .i32⟩ : BufTy).Contents (Elt F)) (Φ₁ (Proc.devRef .tc Cert.KernelIdeal.main_v2230)) (Φ₂ (Proc.devRef .tc Cert.ReferenceIdeal.main_v2244)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 51) rfl) :) e42 e40
  have e44 : @Eq ((⟨Cert.KernelIdeal.S_, .i32⟩ : BufTy).Contents (Elt F)) (Φ₁ (Proc.devRef .tc Cert.KernelIdeal.main_c_680)) (Φ₂ (Proc.devRef .tc Cert.ReferenceIdeal.main_c_680)) := step0 (β := ((⟨Cert.KernelIdeal.S_, .i32⟩ : BufTy).Contents (Elt F))) (eq0 (at_ fa2 (i := 0) rfl) :) (eq0 (at_ fb0 (i := 52) rfl) :)
  have e45 : @Eq ((⟨Cert.KernelIdeal.S131072, .i32⟩ : BufTy).Contents (Elt F)) (Φ₁ (Proc.devRef .tc Cert.KernelIdeal.main_v2231)) (Φ₂ (Proc.devRef .tc Cert.ReferenceIdeal.main_v2245)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb0 (i := 53) rfl) :) e44
  have e46 : @Eq ((⟨Cert.KernelIdeal.S131072, .i32⟩ : BufTy).Contents (Elt F)) (Φ₁ (Proc.devRef .tc Cert.KernelIdeal.main_v2232)) (Φ₂ (Proc.devRef .tc Cert.ReferenceIdeal.main_v2246)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb0 (i := 54) rfl) :) e43 e45
  have e47 : @Eq ((⟨Cert.KernelIdeal.S_, .i32⟩ : BufTy).Contents (Elt F)) (Φ₁ (Proc.devRef .tc Cert.KernelIdeal.main_c_681)) (Φ₂ (Proc.devRef .tc Cert.ReferenceIdeal.main_c_681)) := step0 (β := ((⟨Cert.KernelIdeal.S_, .i32⟩ : BufTy).Contents (Elt F))) (eq0 (at_ fa2 (i := 3) rfl) :) (eq0 (at_ fb0 (i := 55) rfl) :)
  have e48 : @Eq ((⟨Cert.KernelIdeal.S_, .i32⟩ : BufTy).Contents (Elt F)) (Φ₁ (Proc.devRef .tc Cert.KernelIdeal.main_c_682)) (Φ₂ (Proc.devRef .tc Cert.ReferenceIdeal.main_c_682)) := step0 (β := ((⟨Cert.KernelIdeal.S_, .i32⟩ : BufTy).Contents (Elt F))) (eq0 (at_ fa2 (i := 4) rfl) :) (eq0 (at_ fb0 (i := 56) rfl) :)
  have e49 : @Eq ((⟨Cert.KernelIdeal.S_, .i32⟩ : BufTy).Contents (Elt F)) (Φ₁ (Proc.devRef .tc Cert.KernelIdeal.main_call69_v0)) (Φ₂ (Proc.devRef .tc Cert.ReferenceIdeal.main_call69_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb0 (i := 57) rfl) :) e47
  have e50 : @Eq ((⟨Cert.KernelIdeal.S131072, .i32⟩ : BufTy).Contents (Elt F)) (Φ₁ (Proc.devRef .tc Cert.KernelIdeal.main_call69_v1)) (Φ₂ (Proc.devRef .tc Cert.ReferenceIdeal.main_call69_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb0 (i := 58) rfl) :) e49
  have e51 : @Eq ((⟨Cert.KernelIdeal.S131072, .i32⟩ : BufTy).Contents (Elt F)) (Φ₁ (Proc.devRef .tc Cert.KernelIdeal.main_call69_v2)) (Φ₂ (Proc.devRef .tc Cert.ReferenceIdeal.main_call69_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb0 (i := 59) rfl) :) e50 e46
  have e52 : @Eq ((⟨Cert.KernelIdeal.S_, .i32⟩ : BufTy).Contents (Elt F)) (Φ₁ (Proc.devRef .tc Cert.KernelIdeal.main_call69_v3)) (Φ₂ (Proc.devRef .tc Cert.ReferenceIdeal.main_call69_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb0 (i := 60) rfl) :) e48
  have e53 : @Eq ((⟨Cert.KernelIdeal.S131072, .i32⟩ : BufTy).Contents (Elt F)) (Φ₁ (Proc.devRef .tc Cert.KernelIdeal.main_call69_v4)) (Φ₂ (Proc.devRef .tc Cert.ReferenceIdeal.main_call69_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb0 (i := 61) rfl) :) e52
  have e54 : @Eq ((⟨Cert.KernelIdeal.S131072, .i32⟩ : BufTy).Contents (Elt F)) (Φ₁ (Proc.devRef .tc Cert.KernelIdeal.main_v2233)) (Φ₂ (Proc.devRef .tc Cert.ReferenceIdeal.main_v2247)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb0 (i := 62) rfl) :) e53 e51
  have e55 : @Eq ((⟨Cert.KernelIdeal.S131072, .i32⟩ : BufTy).Contents (Elt F)) (Φ₁ (Proc.devRef .tc Cert.KernelIdeal.main_v2234)) (Φ₂ (Proc.devRef .tc Cert.ReferenceIdeal.main_v2248)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb0 (i := 63) rfl) :) e32
  have e56 : @Eq ((⟨Cert.KernelIdeal.S_, .i32⟩ : BufTy).Contents (Elt F)) (Φ₁ (Proc.devRef .tc Cert.KernelIdeal.main_c_683)) (Φ₂ (Proc.devRef .tc Cert.ReferenceIdeal.main_c_683)) := step0 (β := ((⟨Cert.KernelIdeal.S_, .i32⟩ : BufTy).Contents (Elt F))) (eq0 (at_ fa4 (i := 1) rfl) :) (eq0 (at_ fb0 (i := 64) rfl) :)
  have e57 : @Eq ((⟨Cert.KernelIdeal.S_, .i32⟩ : BufTy).Contents (Elt F)) (Φ₁ (Proc.devRef .tc Cert.KernelIdeal.main_c_684)) (Φ₂ (Proc.devRef .tc Cert.ReferenceIdeal.main_c_684)) := step0 (β := ((⟨Cert.KernelIdeal.S_, .i32⟩ : BufTy).Contents (Elt F))) (eq0 (at_ fa4 (i := 2) rfl) :) (eq0 (at_ fb0 (i := 65) rfl) :)
  have e58 : @Eq ((⟨Cert.KernelIdeal.S_, .i32⟩ : BufTy).Contents (Elt F)) (Φ₁ (Proc.devRef .tc Cert.KernelIdeal.main_call70_v0)) (Φ₂ (Proc.devRef .tc Cert.ReferenceIdeal.main_call70_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb0 (i := 66) rfl) :) e56
  have e59 : @Eq ((⟨Cert.KernelIdeal.S131072, .i32⟩ : BufTy).Contents (Elt F)) (Φ₁ (Proc.devRef .tc Cert.KernelIdeal.main_call70_v1)) (Φ₂ (Proc.devRef .tc Cert.ReferenceIdeal.main_call70_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb0 (i := 67) rfl) :) e58
  have e60 : @Eq ((⟨Cert.KernelIdeal.S131072, .i32⟩ : BufTy).Contents (Elt F)) (Φ₁ (Proc.devRef .tc Cert.KernelIdeal.main_call70_v2)) (Φ₂ (Proc.devRef .tc Cert.ReferenceIdeal.main_call70_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb0 (i := 68) rfl) :) e59 e55
  have e61 : @Eq ((⟨Cert.KernelIdeal.S_, .i32⟩ : BufTy).Contents (Elt F)) (Φ₁ (Proc.devRef .tc Cert.KernelIdeal.main_call70_v3)) (Φ₂ (Proc.devRef .tc Cert.ReferenceIdeal.main_call70_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb0 (i := 69) rfl) :) e57
  have e62 : @Eq ((⟨Cert.KernelIdeal.S131072, .i32⟩ : BufTy).Contents (Elt F)) (Φ₁ (Proc.devRef .tc Cert.KernelIdeal.main_call70_v4)) (Φ₂ (Proc.devRef .tc Cert.ReferenceIdeal.main_call70_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb0 (i := 70) rfl) :) e61
  have e63 : @Eq ((⟨Cert.KernelIdeal.S131072, .i32⟩ : BufTy).Contents (Elt F)) (Φ₁ (Proc.devRef .tc Cert.KernelIdeal.main_v2235)) (Φ₂ (Proc.devRef .tc Cert.ReferenceIdeal.main_v2249)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb0 (i := 71) rfl) :) e62 e60
  have e64 : @Eq ((⟨Cert.KernelIdeal.S_, .i32⟩ : BufTy).Contents (Elt F)) (Φ₁ (Proc.devRef .tc Cert.KernelIdeal.main_c_685)) (Φ₂ (Proc.devRef .tc Cert.ReferenceIdeal.main_c_685)) := step0 (β := ((⟨Cert.KernelIdeal.S_, .i32⟩ : BufTy).Contents (Elt F))) (eq0 (at_ fa6 (i := 0) rfl) :) (eq0 (at_ fb0 (i := 72) rfl) :)
  have e65 : @Eq ((⟨Cert.KernelIdeal.S131072, .i32⟩ : BufTy).Contents (Elt F)) (Φ₁ (Proc.devRef .tc Cert.KernelIdeal.main_v2236)) (Φ₂ (Proc.devRef .tc Cert.ReferenceIdeal.main_v2250)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb0 (i := 73) rfl) :) e64
  have e66 : @Eq ((⟨Cert.KernelIdeal.S131072, .i32⟩ : BufTy).Contents (Elt F)) (Φ₁ (Proc.devRef .tc Cert.KernelIdeal.main_v2237)) (Φ₂ (Proc.devRef .tc Cert.ReferenceIdeal.main_v2251)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb0 (i := 74) rfl) :) e63 e65
  have e67 : @Eq ((⟨Cert.KernelIdeal.S_, .i32⟩ : BufTy).Contents (Elt F)) (Φ₁ (Proc.devRef .tc Cert.KernelIdeal.main_c_686)) (Φ₂ (Proc.devRef .tc Cert.ReferenceIdeal.main_c_686)) := step0 (β := ((⟨Cert.KernelIdeal.S_, .i32⟩ : BufTy).Contents (Elt F))) (eq0 (at_ fa6 (i := 3) rfl) :) (eq0 (at_ fb1 (i := 0) rfl) :)
  have e68 : @Eq ((⟨Cert.KernelIdeal.S_, .i32⟩ : BufTy).Contents (Elt F)) (Φ₁ (Proc.devRef .tc Cert.KernelIdeal.main_c_687)) (Φ₂ (Proc.devRef .tc Cert.ReferenceIdeal.main_c_687)) := step0 (β := ((⟨Cert.KernelIdeal.S_, .i32⟩ : BufTy).Contents (Elt F))) (eq0 (at_ fa6 (i := 4) rfl) :) (eq0 (at_ fb1 (i := 1) rfl) :)
  have e69 : @Eq ((⟨Cert.KernelIdeal.S_, .i32⟩ : BufTy).Contents (Elt F)) (Φ₁ (Proc.devRef .tc Cert.KernelIdeal.main_call71_v0)) (Φ₂ (Proc.devRef .tc Cert.ReferenceIdeal.main_call71_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 2) rfl) :) e67
  have e70 : @Eq ((⟨Cert.KernelIdeal.S131072, .i32⟩ : BufTy).Contents (Elt F)) (Φ₁ (Proc.devRef .tc Cert.KernelIdeal.main_call71_v1)) (Φ₂ (Proc.devRef .tc Cert.ReferenceIdeal.main_call71_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 3) rfl) :) e69
  have e71 : @Eq ((⟨Cert.KernelIdeal.S131072, .i32⟩ : BufTy).Contents (Elt F)) (Φ₁ (Proc.devRef .tc Cert.KernelIdeal.main_call71_v2)) (Φ₂ (Proc.devRef .tc Cert.ReferenceIdeal.main_call71_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 4) rfl) :) e70 e66
  have e72 : @Eq ((⟨Cert.KernelIdeal.S_, .i32⟩ : BufTy).Contents (Elt F)) (Φ₁ (Proc.devRef .tc Cert.KernelIdeal.main_call71_v3)) (Φ₂ (Proc.devRef .tc Cert.ReferenceIdeal.main_call71_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 5) rfl) :) e68
  have e73 : @Eq ((⟨Cert.KernelIdeal.S131072, .i32⟩ : BufTy).Contents (Elt F)) (Φ₁ (Proc.devRef .tc Cert.KernelIdeal.main_call71_v4)) (Φ₂ (Proc.devRef .tc Cert.ReferenceIdeal.main_call71_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 6) rfl) :) e72
  have e74 : @Eq ((⟨Cert.KernelIdeal.S131072, .i32⟩ : BufTy).Contents (Elt F)) (Φ₁ (Proc.devRef .tc Cert.KernelIdeal.main_v2238)) (Φ₂ (Proc.devRef .tc Cert.ReferenceIdeal.main_v2252)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 7) rfl) :) e73 e71
  have e75 : @Eq ((⟨Cert.KernelIdeal.S_, .i32⟩ : BufTy).Contents (Elt F)) (Φ₁ (Proc.devRef .tc Cert.KernelIdeal.main_c_688)) (Φ₂ (Proc.devRef .tc Cert.ReferenceIdeal.main_c_688)) := step0 (β := ((⟨Cert.KernelIdeal.S_, .i32⟩ : BufTy).Contents (Elt F))) (eq0 (at_ fa8 (i := 0) rfl) :) (eq0 (at_ fb1 (i := 8) rfl) :)
  have e76 : @Eq ((⟨Cert.KernelIdeal.S131072, .i32⟩ : BufTy).Contents (Elt F)) (Φ₁ (Proc.devRef .tc Cert.KernelIdeal.main_v2239)) (Φ₂ (Proc.devRef .tc Cert.ReferenceIdeal.main_v2253)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 9) rfl) :) e75
  have e77 : @Eq ((⟨Cert.KernelIdeal.S131072, .i1⟩ : BufTy).Contents (Elt F)) (Φ₁ (Proc.devRef .tc Cert.KernelIdeal.main_v2240)) (Φ₂ (Proc.devRef .tc Cert.ReferenceIdeal.main_v2254)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 10) rfl) :) e63 e76
  have e78 : @Eq ((⟨Cert.KernelIdeal.S_, .i32⟩ : BufTy).Contents (Elt F)) (Φ₁ (Proc.devRef .tc Cert.KernelIdeal.main_c_689)) (Φ₂ (Proc.devRef .tc Cert.ReferenceIdeal.main_c_689)) := step0 (β := ((⟨Cert.KernelIdeal.S_, .i32⟩ : BufTy).Contents (Elt F))) (eq0 (at_ fa8 (i := 3) rfl) :) (eq0 (at_ fb1 (i := 11) rfl) :)
  have e79 : @Eq ((⟨Cert.KernelIdeal.S131072, .i32⟩ : BufTy).Contents (Elt F)) (Φ₁ (Proc.devRef .tc Cert.KernelIdeal.main_v2241)) (Φ₂ (Proc.devRef .tc Cert.ReferenceIdeal.main_v2255)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 12) rfl) :) e78
  have e80 : @Eq ((⟨Cert.KernelIdeal.S131072, .i32⟩ : BufTy).Contents (Elt F)) (Φ₁ (Proc.devRef .tc Cert.KernelIdeal.main_v2242)) (Φ₂ (Proc.devRef .tc Cert.ReferenceIdeal.main_v2256)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 13) rfl) :) e63 e79
  have e81 : @Eq ((⟨Cert.KernelIdeal.S131072, .i32⟩ : BufTy).Contents (Elt F)) (Φ₁ (Proc.devRef .tc Cert.KernelIdeal.main_v2243)) (Φ₂ (Proc.devRef .tc Cert.ReferenceIdeal.main_v2257)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 14) rfl) :) e77 e80 e63
  have e82 : @Eq ((⟨Cert.KernelIdeal.S_, .i32⟩ : BufTy).Contents (Elt F)) (Φ₁ (Proc.devRef .tc Cert.KernelIdeal.main_c_690)) (Φ₂ (Proc.devRef .tc Cert.ReferenceIdeal.main_c_690)) := step0 (β := ((⟨Cert.KernelIdeal.S_, .i32⟩ : BufTy).Contents (Elt F))) (eq0 (at_ fa8 (i := 7) rfl) :) (eq0 (at_ fb1 (i := 15) rfl) :)
  have e83 : @Eq ((⟨Cert.KernelIdeal.S131072, .i32⟩ : BufTy).Contents (Elt F)) (Φ₁ (Proc.devRef .tc Cert.KernelIdeal.main_v2244)) (Φ₂ (Proc.devRef .tc Cert.ReferenceIdeal.main_v2258)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 16) rfl) :) e82
  have e84 : @Eq ((⟨Cert.KernelIdeal.S131072, .i1⟩ : BufTy).Contents (Elt F)) (Φ₁ (Proc.devRef .tc Cert.KernelIdeal.main_v2245)) (Φ₂ (Proc.devRef .tc Cert.ReferenceIdeal.main_v2259)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 17) rfl) :) e43 e83
  have e85 : @Eq ((⟨Cert.KernelIdeal.S_, .i32⟩ : BufTy).Contents (Elt F)) (Φ₁ (Proc.devRef .tc Cert.KernelIdeal.main_c_691)) (Φ₂ (Proc.devRef .tc Cert.ReferenceIdeal.main_c_691)) := step0 (β := ((⟨Cert.KernelIdeal.S_, .i32⟩ : BufTy).Contents (Elt F))) (eq0 (at_ fa8 (i := 10) rfl) :) (eq0 (at_ fb1 (i := 18) rfl) :)
  have e86 : @Eq ((⟨Cert.KernelIdeal.S131072, .i32⟩ : BufTy).Contents (Elt F)) (Φ₁ (Proc.devRef .tc Cert.KernelIdeal.main_v2246)) (Φ₂ (Proc.devRef .tc Cert.ReferenceIdeal.main_v2260)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 19) rfl) :) e85
  have e87 : @Eq ((⟨Cert.KernelIdeal.S131072, .i32⟩ : BufTy).Contents (Elt F)) (Φ₁ (Proc.devRef .tc Cert.KernelIdeal.main_v2247)) (Φ₂ (Proc.devRef .tc Cert.ReferenceIdeal.main_v2261)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 20) rfl) :) e43 e86
  have e88 : @Eq ((⟨Cert.KernelIdeal.S131072, .i32⟩ : BufTy).Contents (Elt F)) (Φ₁ (Proc.devRef .tc Cert.KernelIdeal.main_v2248)) (Φ₂ (Proc.devRef .tc Cert.ReferenceIdeal.main_v2262)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 21) rfl) :) e84 e87 e43
  have e89 : @Eq ((⟨Cert.KernelIdeal.S131072x1, .i32⟩ : BufTy).Contents (Elt F)) (Φ₁ (Proc.devRef .tc Cert.KernelIdeal.main_v2249)) (Φ₂ (Proc.devRef .tc Cert.ReferenceIdeal.main_v2263)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 22) rfl) :) e81
  have e90 : @Eq ((⟨Cert.KernelIdeal.S131072x1, .i32⟩ : BufTy).Contents (Elt F)) (Φ₁ (Proc.devRef .tc Cert.KernelIdeal.main_v2250)) (Φ₂ (Proc.devRef .tc Cert.ReferenceIdeal.main_v2264)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 23) rfl) :) e88
  have e91 : @Eq ((⟨Cert.KernelIdeal.S131072x2, .i32⟩ : BufTy).Contents (Elt F)) (Φ₁ (Proc.devRef .tc Cert.KernelIdeal.main_v2251)) (Φ₂ (Proc.devRef .tc Cert.ReferenceIdeal.main_v2265)) := by rw [eq2 (at_ fa8 (i := 16) rfl), eq2 (at_ fb1 (i := 24) rfl), e89, e90] <;> rfl
  have e92 : @Eq ((⟨Cert.KernelIdeal.S32x131072, .f32⟩ : BufTy).Contents (Elt F)) (Φ₁ (Proc.devRef .tc Cert.KernelIdeal.main_v2252)) (Φ₂ (Proc.devRef .tc Cert.ReferenceIdeal.main_v2266)) := by rw [eq2 (at_ fa8 (i := 17) rfl), eq2 (at_ fb1 (i := 25) rfl), x2, e91] <;> rfl
  have e93 : @Eq ((⟨Cert.KernelIdeal.S_, .i32⟩ : BufTy).Contents (Elt F)) (Φ₁ (Proc.devRef .tc Cert.KernelIdeal.main_c_692)) (Φ₂ (Proc.devRef .tc Cert.ReferenceIdeal.main_c_692)) := step0 (β := ((⟨Cert.KernelIdeal.S_, .i32⟩ : BufTy).Contents (Elt F))) (eq0 (at_ fa8 (i := 18) rfl) :) (eq0 (at_ fb1 (i := 26) rfl) :)
  have e94 : @Eq ((⟨Cert.KernelIdeal.S131072, .i32⟩ : BufTy).Contents (Elt F)) (Φ₁ (Proc.devRef .tc Cert.KernelIdeal.main_v2253)) (Φ₂ (Proc.devRef .tc Cert.ReferenceIdeal.main_v2267)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 27) rfl) :) e93
  have e95 : @Eq ((⟨Cert.KernelIdeal.S131072, .i1⟩ : BufTy).Contents (Elt F)) (Φ₁ (Proc.devRef .tc Cert.KernelIdeal.main_v2254)) (Φ₂ (Proc.devRef .tc Cert.ReferenceIdeal.main_v2268)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 28) rfl) :) e63 e94
  have e96 : @Eq ((⟨Cert.KernelIdeal.S_, .i32⟩ : BufTy).Contents (Elt F)) (Φ₁ (Proc.devRef .tc Cert.KernelIdeal.main_c_693)) (Φ₂ (Proc.devRef .tc Cert.ReferenceIdeal.main_c_693)) := step0 (β := ((⟨Cert.KernelIdeal.S_, .i32⟩ : BufTy).Contents (Elt F))) (eq0 (at_ fa8 (i := 21) rfl) :) (eq0 (at_ fb1 (i := 29) rfl) :)
  have e97 : @Eq ((⟨Cert.KernelIdeal.S131072, .i32⟩ : BufTy).Contents (Elt F)) (Φ₁ (Proc.devRef .tc Cert.KernelIdeal.main_v2255)) (Φ₂ (Proc.devRef .tc Cert.ReferenceIdeal.main_v2269)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 30) rfl) :) e96
  have e98 : @Eq ((⟨Cert.KernelIdeal.S131072, .i32⟩ : BufTy).Contents (Elt F)) (Φ₁ (Proc.devRef .tc Cert.KernelIdeal.main_v2256)) (Φ₂ (Proc.devRef .tc Cert.ReferenceIdeal.main_v2270)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 31) rfl) :) e63 e97
  have e99 : @Eq ((⟨Cert.KernelIdeal.S131072, .i32⟩ : BufTy).Contents (Elt F)) (Φ₁ (Proc.devRef .tc Cert.KernelIdeal.main_v2257)) (Φ₂ (Proc.devRef .tc Cert.ReferenceIdeal.main_v2271)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 32) rfl) :) e95 e98 e63
  have e100 : @Eq ((⟨Cert.KernelIdeal.S_, .i32⟩ : BufTy).Contents (Elt F)) (Φ₁ (Proc.devRef .tc Cert.KernelIdeal.main_c_694)) (Φ₂ (Proc.devRef .tc Cert.ReferenceIdeal.main_c_694)) := step0 (β := ((⟨Cert.KernelIdeal.S_, .i32⟩ : BufTy).Contents (Elt F))) (eq0 (at_ fa8 (i := 25) rfl) :) (eq0 (at_ fb1 (i := 33) rfl) :)
  have e101 : @Eq ((⟨Cert.KernelIdeal.S131072, .i32⟩ : BufTy).Contents (Elt F)) (Φ₁ (Proc.devRef .tc Cert.KernelIdeal.main_v2258)) (Φ₂ (Proc.devRef .tc Cert.ReferenceIdeal.main_v2272)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 34) rfl) :) e100
  have e102 : @Eq ((⟨Cert.KernelIdeal.S131072, .i1⟩ : BufTy).Contents (Elt F)) (Φ₁ (Proc.devRef .tc Cert.KernelIdeal.main_v2259)) (Φ₂ (Proc.devRef .tc Cert.ReferenceIdeal.main_v2273)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 35) rfl) :) e54 e101
  have e103 : @Eq ((⟨Cert.KernelIdeal.S_, .i32⟩ : BufTy).Contents (Elt F)) (Φ₁ (Proc.devRef .tc Cert.KernelIdeal.main_c_695)) (Φ₂ (Proc.devRef .tc Cert.ReferenceIdeal.main_c_695)) := step0 (β := ((⟨Cert.KernelIdeal.S_, .i32⟩ : BufTy).Contents (Elt F))) (eq0 (at_ fa8 (i := 28) rfl) :) (eq0 (at_ fb1 (i := 36) rfl) :)
  have e104 : @Eq ((⟨Cert.KernelIdeal.S131072, .i32⟩ : BufTy).Contents (Elt F)) (Φ₁ (Proc.devRef .tc Cert.KernelIdeal.main_v2260)) (Φ₂ (Proc.devRef .tc Cert.ReferenceIdeal.main_v2274)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 37) rfl) :) e103
  have e105 : @Eq ((⟨Cert.KernelIdeal.S131072, .i32⟩ : BufTy).Contents (Elt F)) (Φ₁ (Proc.devRef .tc Cert.KernelIdeal.main_v2261)) (Φ₂ (Proc.devRef .tc Cert.ReferenceIdeal.main_v2275)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 38) rfl) :) e54 e104
  have e106 : @Eq ((⟨Cert.KernelIdeal.S131072, .i32⟩ : BufTy).Contents (Elt F)) (Φ₁ (Proc.devRef .tc Cert.KernelIdeal.main_v2262)) (Φ₂ (Proc.devRef .tc Cert.ReferenceIdeal.main_v2276)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 39) rfl) :) e102 e105 e54
  have e107 : @Eq ((⟨Cert.KernelIdeal.S131072x1, .i32⟩ : BufTy).Contents (Elt F)) (Φ₁ (Proc.devRef .tc Cert.KernelIdeal.main_v2263)) (Φ₂ (Proc.devRef .tc Cert.ReferenceIdeal.main_v2277)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 40) rfl) :) e99
  have e108 : @Eq ((⟨Cert.KernelIdeal.S131072x1, .i32⟩ : BufTy).Contents (Elt F)) (Φ₁ (Proc.devRef .tc Cert.KernelIdeal.main_v2264)) (Φ₂ (Proc.devRef .tc Cert.ReferenceIdeal.main_v2278)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 41) rfl) :) e106
  have e109 : @Eq ((⟨Cert.KernelIdeal.S131072x2, .i32⟩ : BufTy).Contents (Elt F)) (Φ₁ (Proc.devRef .tc Cert.KernelIdeal.main_v2265)) (Φ₂ (Proc.devRef .tc Cert.ReferenceIdeal.main_v2279)) := by rw [eq2 (at_ fa8 (i := 34) rfl), eq2 (at_ fb1 (i := 42) rfl), e107, e108] <;> rfl
  have e110 : @Eq ((⟨Cert.KernelIdeal.S32x131072, .f32⟩ : BufTy).Contents (Elt F)) (Φ₁ (Proc.devRef .tc Cert.KernelIdeal.main_v2266)) (Φ₂ (Proc.devRef .tc Cert.ReferenceIdeal.main_v2280)) := by rw [eq2 (at_ fa8 (i := 35) rfl), eq2 (at_ fb1 (i := 43) rfl), x2, e109] <;> rfl
  have e111 : @Eq ((⟨Cert.KernelIdeal.S_, .i32⟩ : BufTy).Contents (Elt F)) (Φ₁ (Proc.devRef .tc Cert.KernelIdeal.main_c_696)) (Φ₂ (Proc.devRef .tc Cert.ReferenceIdeal.main_c_696)) := step0 (β := ((⟨Cert.KernelIdeal.S_, .i32⟩ : BufTy).Contents (Elt F))) (eq0 (at_ fa8 (i := 36) rfl) :) (eq0 (at_ fb1 (i := 44) rfl) :)
  have e112 : @Eq ((⟨Cert.KernelIdeal.S131072, .i32⟩ : BufTy).Contents (Elt F)) (Φ₁ (Proc.devRef .tc Cert.KernelIdeal.main_v2267)) (Φ₂ (Proc.devRef .tc Cert.ReferenceIdeal.main_v2281)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 45) rfl) :) e111
  have e113 : @Eq ((⟨Cert.KernelIdeal.S131072, .i1⟩ : BufTy).Contents (Elt F)) (Φ₁ (Proc.devRef .tc Cert.KernelIdeal.main_v2268)) (Φ₂ (Proc.devRef .tc Cert.ReferenceIdeal.main_v2282)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 46) rfl) :) e74 e112
  have e114 : @Eq ((⟨Cert.KernelIdeal.S_, .i32⟩ : BufTy).Contents (Elt F)) (Φ₁ (Proc.devRef .tc Cert.KernelIdeal.main_c_697)) (Φ₂ (Proc.devRef .tc Cert.ReferenceIdeal.main_c_697)) := step0 (β := ((⟨Cert.KernelIdeal.S_, .i32⟩ : BufTy).Contents (Elt F))) (eq0 (at_ fa8 (i := 39) rfl) :) (eq0 (at_ fb1 (i := 47) rfl) :)
  have e115 : @Eq ((⟨Cert.KernelIdeal.S131072, .i32⟩ : BufTy).Contents (Elt F)) (Φ₁ (Proc.devRef .tc Cert.KernelIdeal.main_v2269)) (Φ₂ (Proc.devRef .tc Cert.ReferenceIdeal.main_v2283)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 48) rfl) :) e114
  have e116 : @Eq ((⟨Cert.KernelIdeal.S131072, .i32⟩ : BufTy).Contents (Elt F)) (Φ₁ (Proc.devRef .tc Cert.KernelIdeal.main_v2270)) (Φ₂ (Proc.devRef .tc Cert.ReferenceIdeal.main_v2284)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 49) rfl) :) e74 e115
  have e117 : @Eq ((⟨Cert.KernelIdeal.S131072, .i32⟩ : BufTy).Contents (Elt F)) (Φ₁ (Proc.devRef .tc Cert.KernelIdeal.main_v2271)) (Φ₂ (Proc.devRef .tc Cert.ReferenceIdeal.main_v2285)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 50) rfl) :) e113 e116 e74
  have e118 : @Eq ((⟨Cert.KernelIdeal.S_, .i32⟩ : BufTy).Contents (Elt F)) (Φ₁ (Proc.devRef .tc Cert.KernelIdeal.main_c_698)) (Φ₂ (Proc.devRef .tc Cert.ReferenceIdeal.main_c_698)) := step0 (β := ((⟨Cert.KernelIdeal.S_, .i32⟩ : BufTy).Contents (Elt F))) (eq0 (at_ fa8 (i := 43) rfl) :) (eq0 (at_ fb1 (i := 51) rfl) :)
  have e119 : @Eq ((⟨Cert.KernelIdeal.S131072, .i32⟩ : BufTy).Contents (Elt F)) (Φ₁ (Proc.devRef .tc Cert.KernelIdeal.main_v2272)) (Φ₂ (Proc.devRef .tc Cert.ReferenceIdeal.main_v2286)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 52) rfl) :) e118
  have e120 : @Eq ((⟨Cert.KernelIdeal.S131072, .i1⟩ : BufTy).Contents (Elt F)) (Φ₁ (Proc.devRef .tc Cert.KernelIdeal.main_v2273)) (Φ₂ (Proc.devRef .tc Cert.ReferenceIdeal.main_v2287)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb1 (i := 53) rfl) :) e43 e119
  have e121 : @Eq ((⟨Cert.KernelIdeal.S_, .i32⟩ : BufTy).Contents (Elt F)) (Φ₁ (Proc.devRef .tc Cert.KernelIdeal.main_c_699)) (Φ₂ (Proc.devRef .tc Cert.ReferenceIdeal.main_c_699)) := step0 (β := ((⟨Cert.KernelIdeal.S_, .i32⟩ : BufTy).Contents (Elt F))) (eq0 (at_ fa8 (i := 46) rfl) :) (eq0 (at_ fb1 (i := 54) rfl) :)
  have e122 : @Eq ((⟨Cert.KernelIdeal.S131072, .i32⟩ : BufTy).Contents (Elt F)) (Φ₁ (Proc.devRef .tc Cert.KernelIdeal.main_v2274)) (Φ₂ (Proc.devRef .tc Cert.ReferenceIdeal.main_v2288)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb1 (i := 55) rfl) :) e121
  have e123 : @Eq ((⟨Cert.KernelIdeal.S131072, .i32⟩ : BufTy).Contents (Elt F)) (Φ₁ (Proc.devRef .tc Cert.KernelIdeal.main_v2275)) (Φ₂ (Proc.devRef .tc Cert.ReferenceIdeal.main_v2289)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb1 (i := 56) rfl) :) e43 e122
  have e124 : @Eq ((⟨Cert.KernelIdeal.S131072, .i32⟩ : BufTy).Contents (Elt F)) (Φ₁ (Proc.devRef .tc Cert.KernelIdeal.main_v2276)) (Φ₂ (Proc.devRef .tc Cert.ReferenceIdeal.main_v2290)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb1 (i := 57) rfl) :) e120 e123 e43
  have e125 : @Eq ((⟨Cert.KernelIdeal.S131072x1, .i32⟩ : BufTy).Contents (Elt F)) (Φ₁ (Proc.devRef .tc Cert.KernelIdeal.main_v2277)) (Φ₂ (Proc.devRef .tc Cert.ReferenceIdeal.main_v2291)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb1 (i := 58) rfl) :) e117
  have e126 : @Eq ((⟨Cert.KernelIdeal.S131072x1, .i32⟩ : BufTy).Contents (Elt F)) (Φ₁ (Proc.devRef .tc Cert.KernelIdeal.main_v2278)) (Φ₂ (Proc.devRef .tc Cert.ReferenceIdeal.main_v2292)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb1 (i := 59) rfl) :) e124
  have e127 : @Eq ((⟨Cert.KernelIdeal.S131072x2, .i32⟩ : BufTy).Contents (Elt F)) (Φ₁ (Proc.devRef .tc Cert.KernelIdeal.main_v2279)) (Φ₂ (Proc.devRef .tc Cert.ReferenceIdeal.main_v2293)) := by rw [eq2 (at_ fa8 (i := 52) rfl), eq2 (at_ fb1 (i := 60) rfl), e125, e126] <;> rfl
  have e128 : @Eq ((⟨Cert.KernelIdeal.S32x131072, .f32⟩ : BufTy).Contents (Elt F)) (Φ₁ (Proc.devRef .tc Cert.KernelIdeal.main_v2280)) (Φ₂ (Proc.devRef .tc Cert.ReferenceIdeal.main_v2294)) := by rw [eq2 (at_ fa8 (i := 53) rfl), eq2 (at_ fb1 (i := 61) rfl), x2, e127] <;> rfl
  have e129 : @Eq ((⟨Cert.KernelIdeal.S_, .i32⟩ : BufTy).Contents (Elt F)) (Φ₁ (Proc.devRef .tc Cert.KernelIdeal.main_c_700)) (Φ₂ (Proc.devRef .tc Cert.ReferenceIdeal.main_c_700)) := step0 (β := ((⟨Cert.KernelIdeal.S_, .i32⟩ : BufTy).Contents (Elt F))) (eq0 (at_ fa8 (i := 54) rfl) :) (eq0 (at_ fb1 (i := 62) rfl) :)
  have e130 : @Eq ((⟨Cert.KernelIdeal.S131072, .i32⟩ : BufTy).Contents (Elt F)) (Φ₁ (Proc.devRef .tc Cert.KernelIdeal.main_v2281)) (Φ₂ (Proc.devRef .tc Cert.ReferenceIdeal.main_v2295)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb1 (i := 63) rfl) :) e129
  have e131 : @Eq ((⟨Cert.KernelIdeal.S131072, .i1⟩ : BufTy).Contents (Elt F)) (Φ₁ (Proc.devRef .tc Cert.KernelIdeal.main_v2282)) (Φ₂ (Proc.devRef .tc Cert.ReferenceIdeal.main_v2296)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb1 (i := 64) rfl) :) e74 e130
  have e132 : @Eq ((⟨Cert.KernelIdeal.S_, .i32⟩ : BufTy).Contents (Elt F)) (Φ₁ (Proc.devRef .tc Cert.KernelIdeal.main_c_701)) (Φ₂ (Proc.devRef .tc Cert.ReferenceIdeal.main_c_701)) := step0 (β := ((⟨Cert.KernelIdeal.S_, .i32⟩ : BufTy).Contents (Elt F))) (eq0 (at_ fa8 (i := 57) rfl) :) (eq0 (at_ fb2 (i := 0) rfl) :)
  have e133 : @Eq ((⟨Cert.KernelIdeal.S131072, .i32⟩ : BufTy).Contents (Elt F)) (Φ₁ (Proc.devRef .tc Cert.KernelIdeal.main_v2283)) (Φ₂ (Proc.devRef .tc Cert.ReferenceIdeal.main_v2297)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 1) rfl) :) e132
  have e134 : @Eq ((⟨Cert.KernelIdeal.S131072, .i32⟩ : BufTy).Contents (Elt F)) (Φ₁ (Proc.devRef .tc Cert.KernelIdeal.main_v2284)) (Φ₂ (Proc.devRef .tc Cert.ReferenceIdeal.main_v2298)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 2) rfl) :) e74 e133
  have e135 : @Eq ((⟨Cert.KernelIdeal.S131072, .i32⟩ : BufTy).Contents (Elt F)) (Φ₁ (Proc.devRef .tc Cert.KernelIdeal.main_v2285)) (Φ₂ (Proc.devRef .tc Cert.ReferenceIdeal.main_v2299)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 3) rfl) :) e131 e134 e74
  have e136 : @Eq ((⟨Cert.KernelIdeal.S_, .i32⟩ : BufTy).Contents (Elt F)) (Φ₁ (Proc.devRef .tc Cert.KernelIdeal.main_c_702)) (Φ₂ (Proc.devRef .tc Cert.ReferenceIdeal.main_c_702)) := step0 (β := ((⟨Cert.KernelIdeal.S_, .i32⟩ : BufTy).Contents (Elt F))) (eq0 (at_ fa8 (i := 61) rfl) :) (eq0 (at_ fb2 (i := 4) rfl) :)
  have e137 : @Eq ((⟨Cert.KernelIdeal.S131072, .i32⟩ : BufTy).Contents (Elt F)) (Φ₁ (Proc.devRef .tc Cert.KernelIdeal.main_v2286)) (Φ₂ (Proc.devRef .tc Cert.ReferenceIdeal.main_v2300)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 5) rfl) :) e136
  have e138 : @Eq ((⟨Cert.KernelIdeal.S131072, .i1⟩ : BufTy).Contents (Elt F)) (Φ₁ (Proc.devRef .tc Cert.KernelIdeal.main_v2287)) (Φ₂ (Proc.devRef .tc Cert.ReferenceIdeal.main_v2301)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 6) rfl) :) e54 e137
  have e139 : @Eq ((⟨Cert.KernelIdeal.S_, .i32⟩ : BufTy).Contents (Elt F)) (Φ₁ (Proc.devRef .tc Cert.KernelIdeal.main_c_703)) (Φ₂ (Proc.devRef .tc Cert.ReferenceIdeal.main_c_703)) := step0 (β := ((⟨Cert.KernelIdeal.S_, .i32⟩ : BufTy).Contents (Elt F))) (eq0 (at_ fa8 (i := 64) rfl) :) (eq0 (at_ fb2 (i := 7) rfl) :)
  have e140 : @Eq ((⟨Cert.KernelIdeal.S131072, .i32⟩ : BufTy).Contents (Elt F)) (Φ₁ (Proc.devRef .tc Cert.KernelIdeal.main_v2288)) (Φ₂ (Proc.devRef .tc Cert.ReferenceIdeal.main_v2302)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 8) rfl) :) e139
  have e141 : @Eq ((⟨Cert.KernelIdeal.S131072, .i32⟩ : BufTy).Contents (Elt F)) (Φ₁ (Proc.devRef .tc Cert.KernelIdeal.main_v2289)) (Φ₂ (Proc.devRef .tc Cert.ReferenceIdeal.main_v2303)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 9) rfl) :) e54 e140
  have e142 : @Eq ((⟨Cert.KernelIdeal.S131072, .i32⟩ : BufTy).Contents (Elt F)) (Φ₁ (Proc.devRef .tc Cert.KernelIdeal.main_v2290)) (Φ₂ (Proc.devRef .tc Cert.ReferenceIdeal.main_v2304)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 10) rfl) :) e138 e141 e54
  have e143 : @Eq ((⟨Cert.KernelIdeal.S131072x1, .i32⟩ : BufTy).Contents (Elt F)) (Φ₁ (Proc.devRef .tc Cert.KernelIdeal.main_v2291)) (Φ₂ (Proc.devRef .tc Cert.ReferenceIdeal.main_v2305)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 11) rfl) :) e135
  have e144 : @Eq ((⟨Cert.KernelIdeal.S131072x1, .i32⟩ : BufTy).Contents (Elt F)) (Φ₁ (Proc.devRef .tc Cert.KernelIdeal.main_v2292)) (Φ₂ (Proc.devRef .tc Cert.ReferenceIdeal.main_v2306)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 12) rfl) :) e142
  have e145 : @Eq ((⟨Cert.KernelIdeal.S131072x2, .i32⟩ : BufTy).Contents (Elt F)) (Φ₁ (Proc.devRef .tc Cert.KernelIdeal.main_v2293)) (Φ₂ (Proc.devRef .tc Cert.ReferenceIdeal.main_v2307)) := by rw [eq2 (at_ fa8 (i := 70) rfl), eq2 (at_ fb2 (i := 13) rfl), e143, e144] <;> rfl
  have e146 : @Eq ((⟨Cert.KernelIdeal.S32x131072, .f32⟩ : BufTy).Contents (Elt F)) (Φ₁ (Proc.devRef .tc Cert.KernelIdeal.main_v2294)) (Φ₂ (Proc.devRef .tc Cert.ReferenceIdeal.main_v2308)) := by rw [eq2 (at_ fa8 (i := 71) rfl), eq2 (at_ fb2 (i := 14) rfl), x2, e145] <;> rfl
  have e147 : @Eq ((⟨Cert.KernelIdeal.S_, .f32⟩ : BufTy).Contents (Elt F)) (Φ₁ (Proc.devRef .tc Cert.KernelIdeal.main_cst_704)) (Φ₂ (Proc.devRef .tc Cert.ReferenceIdeal.main_cst_704)) := step0 (β := ((⟨Cert.KernelIdeal.S_, .f32⟩ : BufTy).Contents (Elt F))) (eq0 (at_ fa8 (i := 72) rfl) :) (eq0 (at_ fb2 (i := 15) rfl) :)
  have e148 : @Eq ((⟨Cert.KernelIdeal.S131072, .f32⟩ : BufTy).Contents (Elt F)) (Φ₁ (Proc.devRef .tc Cert.KernelIdeal.main_v2295)) (Φ₂ (Proc.devRef .tc Cert.ReferenceIdeal.main_v2309)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 16) rfl) :) e147
  have e149 : @Eq ((⟨Cert.KernelIdeal.S131072, .f32⟩ : BufTy).Contents (Elt F)) (Φ₁ (Proc.devRef .tc Cert.KernelIdeal.main_v2296)) (Φ₂ (Proc.devRef .tc Cert.ReferenceIdeal.main_v2310)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 17) rfl) :) e148 e33
  have e150 : @Eq ((⟨Cert.KernelIdeal.S1x131072, .f32⟩ : BufTy).Contents (Elt F)) (Φ₁ (Proc.devRef .tc Cert.KernelIdeal.main_v2297)) (Φ₂ (Proc.devRef .tc Cert.ReferenceIdeal.main_v2311)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 18) rfl) :) e149
  have e151 : @Eq ((⟨Cert.KernelIdeal.S32x131072, .f32⟩ : BufTy).Contents (Elt F)) (Φ₁ (Proc.devRef .tc Cert.KernelIdeal.main_v2298)) (Φ₂ (Proc.devRef .tc Cert.ReferenceIdeal.main_v2312)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 19) rfl) :) e150
  have e152 : @Eq ((⟨Cert.KernelIdeal.S32x131072, .f32⟩ : BufTy).Contents (Elt F)) (Φ₁ (Proc.devRef .tc Cert.KernelIdeal.main_v2299)) (Φ₂ (Proc.devRef .tc Cert.ReferenceIdeal.main_v2313)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 20) rfl) :) e92 e151
  have e153 : @Eq ((⟨Cert.KernelIdeal.S_, .f32⟩ : BufTy).Contents (Elt F)) (Φ₁ (Proc.devRef .tc Cert.KernelIdeal.main_cst_705)) (Φ₂ (Proc.devRef .tc Cert.ReferenceIdeal.main_cst_705)) := step0 (β := ((⟨Cert.KernelIdeal.S_, .f32⟩ : BufTy).Contents (Elt F))) (eq0 (at_ fa8 (i := 78) rfl) :) (eq0 (at_ fb2 (i := 21) rfl) :)
  have e154 : @Eq ((⟨Cert.KernelIdeal.S131072, .f32⟩ : BufTy).Contents (Elt F)) (Φ₁ (Proc.devRef .tc Cert.KernelIdeal.main_v2300)) (Φ₂ (Proc.devRef .tc Cert.ReferenceIdeal.main_v2314)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 22) rfl) :) e153
  have e155 : @Eq ((⟨Cert.KernelIdeal.S131072, .f32⟩ : BufTy).Contents (Elt F)) (Φ₁ (Proc.devRef .tc Cert.KernelIdeal.main_v2301)) (Φ₂ (Proc.devRef .tc Cert.ReferenceIdeal.main_v2315)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 23) rfl) :) e154 e34
  have e156 : @Eq ((⟨Cert.KernelIdeal.S1x131072, .f32⟩ : BufTy).Contents (Elt F)) (Φ₁ (Proc.devRef .tc Cert.KernelIdeal.main_v2302)) (Φ₂ (Proc.devRef .tc Cert.ReferenceIdeal.main_v2316)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 24) rfl) :) e155
  have e157 : @Eq ((⟨Cert.KernelIdeal.S32x131072, .f32⟩ : BufTy).Contents (Elt F)) (Φ₁ (Proc.devRef .tc Cert.KernelIdeal.main_v2303)) (Φ₂ (Proc.devRef .tc Cert.ReferenceIdeal.main_v2317)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 25) rfl) :) e156
  have e158 : @Eq ((⟨Cert.KernelIdeal.S32x131072, .f32⟩ : BufTy).Contents (Elt F)) (Φ₁ (Proc.devRef .tc Cert.KernelIdeal.main_v2304)) (Φ₂ (Proc.devRef .tc Cert.ReferenceIdeal.main_v2318)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 26) rfl) :) e152 e157
  have e159 : @Eq ((⟨Cert.KernelIdeal.S1x131072, .f32⟩ : BufTy).Contents (Elt F)) (Φ₁ (Proc.devRef .tc Cert.KernelIdeal.main_v2305)) (Φ₂ (Proc.devRef .tc Cert.ReferenceIdeal.main_v2319)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 27) rfl) :) e33
  have e160 : @Eq ((⟨Cert.KernelIdeal.S32x131072, .f32⟩ : BufTy).Contents (Elt F)) (Φ₁ (Proc.devRef .tc Cert.KernelIdeal.main_v2306)) (Φ₂ (Proc.devRef .tc Cert.ReferenceIdeal.main_v2320)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 28) rfl) :) e159
  have e161 : @Eq ((⟨Cert.KernelIdeal.S32x131072, .f32⟩ : BufTy).Contents (Elt F)) (Φ₁ (Proc.devRef .tc Cert.KernelIdeal.main_v2307)) (Φ₂ (Proc.devRef .tc Cert.ReferenceIdeal.main_v2321)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 29) rfl) :) e110 e160
  have e162 : @Eq ((⟨Cert.KernelIdeal.S_, .f32⟩ : BufTy).Contents (Elt F)) (Φ₁ (Proc.devRef .tc Cert.KernelIdeal.main_cst_706)) (Φ₂ (Proc.devRef .tc Cert.ReferenceIdeal.main_cst_706)) := step0 (β := ((⟨Cert.KernelIdeal.S_, .f32⟩ : BufTy).Contents (Elt F))) (eq0 (at_ fa8 (i := 87) rfl) :) (eq0 (at_ fb2 (i := 30) rfl) :)
  have e163 : @Eq ((⟨Cert.KernelIdeal.S131072, .f32⟩ : BufTy).Contents (Elt F)) (Φ₁ (Proc.devRef .tc Cert.KernelIdeal.main_v2308)) (Φ₂ (Proc.devRef .tc Cert.ReferenceIdeal.main_v2322)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 31) rfl) :) e162
  have e164 : @Eq ((⟨Cert.KernelIdeal.S131072, .f32⟩ : BufTy).Contents (Elt F)) (Φ₁ (Proc.devRef .tc Cert.KernelIdeal.main_v2309)) (Φ₂ (Proc.devRef .tc Cert.ReferenceIdeal.main_v2323)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 32) rfl) :) e163 e34
  have e165 : @Eq ((⟨Cert.KernelIdeal.S1x131072, .f32⟩ : BufTy).Contents (Elt F)) (Φ₁ (Proc.devRef .tc Cert.KernelIdeal.main_v2310)) (Φ₂ (Proc.devRef .tc Cert.ReferenceIdeal.main_v2324)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 33) rfl) :) e164
  have e166 : @Eq ((⟨Cert.KernelIdeal.S32x131072, .f32⟩ : BufTy).Contents (Elt F)) (Φ₁ (Proc.devRef .tc Cert.KernelIdeal.main_v2311)) (Φ₂ (Proc.devRef .tc Cert.ReferenceIdeal.main_v2325)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 34) rfl) :) e165
  have e167 : @Eq ((⟨Cert.KernelIdeal.S32x131072, .f32⟩ : BufTy).Contents (Elt F)) (Φ₁ (Proc.devRef .tc Cert.KernelIdeal.main_v2312)) (Φ₂ (Proc.devRef .tc Cert.ReferenceIdeal.main_v2326)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 35) rfl) :) e161 e166
  have e168 : @Eq ((⟨Cert.KernelIdeal.S32x131072, .f32⟩ : BufTy).Contents (Elt F)) (Φ₁ (Proc.devRef .tc Cert.KernelIdeal.main_v2313)) (Φ₂ (Proc.devRef .tc Cert.ReferenceIdeal.main_v2327)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 36) rfl) :) e158 e167
  have e169 : @Eq ((⟨Cert.KernelIdeal.S_, .f32⟩ : BufTy).Contents (Elt F)) (Φ₁ (Proc.devRef .tc Cert.KernelIdeal.main_cst_707)) (Φ₂ (Proc.devRef .tc Cert.ReferenceIdeal.main_cst_707)) := step0 (β := ((⟨Cert.KernelIdeal.S_, .f32⟩ : BufTy).Contents (Elt F))) (eq0 (at_ fa8 (i := 94) rfl) :) (eq0 (at_ fb2 (i := 37) rfl) :)
  have e170 : @Eq ((⟨Cert.KernelIdeal.S131072, .f32⟩ : BufTy).Contents (Elt F)) (Φ₁ (Proc.devRef .tc Cert.KernelIdeal.main_v2314)) (Φ₂ (Proc.devRef .tc Cert.ReferenceIdeal.main_v2328)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 38) rfl) :) e169
  have e171 : @Eq ((⟨Cert.KernelIdeal.S131072, .f32⟩ : BufTy).Contents (Elt F)) (Φ₁ (Proc.devRef .tc Cert.KernelIdeal.main_v2315)) (Φ₂ (Proc.devRef .tc Cert.ReferenceIdeal.main_v2329)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 39) rfl) :) e170 e33
  have e172 : @Eq ((⟨Cert.KernelIdeal.S1x131072, .f32⟩ : BufTy).Contents (Elt F)) (Φ₁ (Proc.devRef .tc Cert.KernelIdeal.main_v2316)) (Φ₂ (Proc.devRef .tc Cert.ReferenceIdeal.main_v2330)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 40) rfl) :) e171
  have e173 : @Eq ((⟨Cert.KernelIdeal.S32x131072, .f32⟩ : BufTy).Contents (Elt F)) (Φ₁ (Proc.devRef .tc Cert.KernelIdeal.main_v2317)) (Φ₂ (Proc.devRef .tc Cert.ReferenceIdeal.main_v2331)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 41) rfl) :) e172
  have e174 : @Eq ((⟨Cert.KernelIdeal.S32x131072, .f32⟩ : BufTy).Contents (Elt F)) (Φ₁ (Proc.devRef .tc Cert.KernelIdeal.main_v2318)) (Φ₂ (Proc.devRef .tc Cert.ReferenceIdeal.main_v2332)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 42) rfl) :) e128 e173
  have e175 : @Eq ((⟨Cert.KernelIdeal.S1x131072, .f32⟩ : BufTy).Contents (Elt F)) (Φ₁ (Proc.devRef .tc Cert.KernelIdeal.main_v2319)) (Φ₂ (Proc.devRef .tc Cert.ReferenceIdeal.main_v2333)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 43) rfl) :) e34
  have e176 : @Eq ((⟨Cert.KernelIdeal.S32x131072, .f32⟩ : BufTy).Contents (Elt F)) (Φ₁ (Proc.devRef .tc Cert.KernelIdeal.main_v2320)) (Φ₂ (Proc.devRef .tc Cert.ReferenceIdeal.main_v2334)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 44) rfl) :) e175
  have e177 : @Eq ((⟨Cert.KernelIdeal.S32x131072, .f32⟩ : BufTy).Contents (Elt F)) (Φ₁ (Proc.devRef .tc Cert.KernelIdeal.main_v2321)) (Φ₂ (Proc.devRef .tc Cert.ReferenceIdeal.main_v2335)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 45) rfl) :) e174 e176
  have e178 : @Eq ((⟨Cert.KernelIdeal.S32x131072, .f32⟩ : BufTy).Contents (Elt F)) (Φ₁ (Proc.devRef .tc Cert.KernelIdeal.main_v2322)) (Φ₂ (Proc.devRef .tc Cert.ReferenceIdeal.main_v2336)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 46) rfl) :) e168 e177
  have e179 : @Eq ((⟨Cert.KernelIdeal.S1x131072, .f32⟩ : BufTy).Contents (Elt F)) (Φ₁ (Proc.devRef .tc Cert.KernelIdeal.main_v2323)) (Φ₂ (Proc.devRef .tc Cert.ReferenceIdeal.main_v2337)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 47) rfl) :) e33
  have e180 : @Eq ((⟨Cert.KernelIdeal.S32x131072, .f32⟩ : BufTy).Contents (Elt F)) (Φ₁ (Proc.devRef .tc Cert.KernelIdeal.main_v2324)) (Φ₂ (Proc.devRef .tc Cert.ReferenceIdeal.main_v2338)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb2 (i := 48) rfl) :) e179
  have e181 : @Eq ((⟨Cert.KernelIdeal.S32x131072, .f32⟩ : BufTy).Contents (Elt F)) (Φ₁ (Proc.devRef .tc Cert.KernelIdeal.main_v2325)) (Φ₂ (Proc.devRef .tc Cert.ReferenceIdeal.main_v2339)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb2 (i := 49) rfl) :) e146 e180
  have e182 : @Eq ((⟨Cert.KernelIdeal.S1x131072, .f32⟩ : BufTy).Contents (Elt F)) (Φ₁ (Proc.devRef .tc Cert.KernelIdeal.main_v2326)) (Φ₂ (Proc.devRef .tc Cert.ReferenceIdeal.main_v2340)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb2 (i := 50) rfl) :) e34
  have e183 : @Eq ((⟨Cert.KernelIdeal.S32x131072, .f32⟩ : BufTy).Contents (Elt F)) (Φ₁ (Proc.devRef .tc Cert.KernelIdeal.main_v2327)) (Φ₂ (Proc.devRef .tc Cert.ReferenceIdeal.main_v2341)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb2 (i := 51) rfl) :) e182
  have e184 : @Eq ((⟨Cert.KernelIdeal.S32x131072, .f32⟩ : BufTy).Contents (Elt F)) (Φ₁ (Proc.devRef .tc Cert.KernelIdeal.main_v2328)) (Φ₂ (Proc.devRef .tc Cert.ReferenceIdeal.main_v2342)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb2 (i := 52) rfl) :) e181 e183
  have e185 : @Eq ((⟨Cert.KernelIdeal.S32x131072, .f32⟩ : BufTy).Contents (Elt F)) (Φ₁ (Proc.devRef .tc Cert.KernelIdeal.main_v2329)) (Φ₂ (Proc.devRef .tc Cert.ReferenceIdeal.main_v2343)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb2 (i := 53) rfl) :) e178 e184
  have e186 : @Eq ((⟨Cert.KernelIdeal.S131072x32, .f32⟩ : BufTy).Contents (Elt F)) (Φ₁ (Proc.devRef .tc Cert.KernelIdeal.main_v2330)) (Φ₂ (Proc.devRef .tc Cert.ReferenceIdeal.main_v2344)) := by rw [eq1 (at_ fa8 (i := 111) rfl), eq1 (at_ fb2 (i := 54) rfl), e185] <;> rfl
  exact e186

end Cert.Bridge

end
-- ==== Proof.SimB18.lean ====
/- Operations 3401 … 3587 of the one program and 3416 … 3602 of the other apply the same functions to corresponding
   buffers. If both programs' final contents satisfy their own lines' equations and agree on the buffers these operations
   read from outside, they agree on what these operations write: one congruence per operation, in program order. -/
import proofs.«133805_j10187662426200_2_alg».proof.Proof.KIStretch3
import proofs.«133805_j10187662426200_2_alg».proof.Proof.RefOps6
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B18 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_144 : List (HloOp Cert.KernelIdeal.τ Cert.KernelIdeal.sig (Elt F))).Forall fun op => ∀ b ∈ op.writes, Φ₁ b = op.result Φ₁ b)
    (fa1 : (Cert.KernelIdeal.Gen.hostOps0_145 : List (HloOp Cert.KernelIdeal.τ Cert.KernelIdeal.sig (Elt F))).Forall fun op => ∀ b ∈ op.writes, Φ₁ b = op.result Φ₁ b)
    (fa2 : (Cert.KernelIdeal.Gen.hostOps0_146 : List (HloOp Cert.KernelIdeal.τ Cert.KernelIdeal.sig (Elt F))).Forall fun op => ∀ b ∈ op.writes, Φ₁ b = op.result Φ₁ b)
    (fa3 : (Cert.KernelIdeal.Gen.hostOps0_147 : List (HloOp Cert.KernelIdeal.τ Cert.KernelIdeal.sig (Elt F))).Forall fun op => ∀ b ∈ op.writes, Φ₁ b = op.result Φ₁ b)
    (fa4 : (Cert.KernelIdeal.Gen.hostOps0_148 : List (HloOp Cert.KernelIdeal.τ Cert.KernelIdeal.sig (Elt F))).Forall fun op => ∀ b ∈ op.writes, Φ₁ b = op.result Φ₁ b)
    (fa5 : (Cert.KernelIdeal.Gen.hostOps0_149 : List (HloOp Cert.KernelIdeal.τ Cert.KernelIdeal.sig (Elt F))).Forall fun op => ∀ b ∈ op.writes, Φ₁ b = op.result Φ₁ b)
    (fa6 : (Cert.KernelIdeal.Gen.hostOps0_150 : List (HloOp Cert.KernelIdeal.τ Cert.KernelIdeal.sig (Elt F))).Forall fun op => ∀ b ∈ op.writes, Φ₁ b = op.result Φ₁ b)
    (fa7 : (Cert.KernelIdeal.Gen.hostOps0_151 : List (HloOp Cert.KernelIdeal.τ Cert.KernelIdeal.sig (Elt F))).Forall fun op => ∀ b ∈ op.writes, Φ₁ b = op.result Φ₁ b)
    (fa8 : (Cert.KernelIdeal.Gen.hostOps0_152 : List (HloOp Cert.KernelIdeal.τ Cert.KernelIdeal.sig (Elt F))).Forall fun op => ∀ b ∈ op.writes, Φ₁ b = op.result Φ₁ b)
    (fb0 : (Cert.ReferenceIdeal.Ops.w50 : List (HloOp Cert.ReferenceIdeal.τ Cert.ReferenceIdeal.sig (Elt F))).Forall fun op => ∀ b ∈ op.writes, Φ₂ b = op.result Φ₂ b)
    (fb1 : (Cert.ReferenceIdeal.Ops.w51 : List (HloOp Cert.ReferenceIdeal.τ Cert.ReferenceIdeal.sig (Elt F))).Forall fun op => ∀ b ∈ op.writes, Φ₂ b = op.result Φ₂ b)
    (fb2 : (Cert.ReferenceIdeal.Ops.w52 : List (HloOp Cert.ReferenceIdeal.τ Cert.ReferenceIdeal.sig (Elt F))).Forall fun op => ∀ b ∈ op.writes, Φ₂ b = op.result Φ₂ b)
    (fb3 : (Cert.ReferenceIdeal.Ops.w53 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_17)) (Φ₂ (Proc.devRef .tc Cert.ReferenceIdeal.main_c_17)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x512x512, .f32⟩ : BufTy).Contents (Elt F)) (Φ₁ (Proc.devRef .tc Cert.KernelIdeal.main_arg20)) (Φ₂ (Proc.devRef .tc Cert.ReferenceIdeal.main_arg20)))
    : @Eq ((⟨Cert.KernelIdeal.S131072x32, .f32⟩ : BufTy).Contents (Elt F)) (Φ₁ (Proc.devRef .tc Cert.KernelIdeal.main_v2459)) (Φ₂ (Proc.devRef .tc Cert.ReferenceIdeal.main_v2474)) := by
  have e0 : @Eq ((⟨Cert.KernelIdeal.S_, .i32⟩ : BufTy).Contents (Elt F)) (Φ₁ (Proc.devRef .tc Cert.KernelIdeal.main_c_708)) (Φ₂ (Proc.devRef .tc Cert.ReferenceIdeal.main_c_708)) := step0 (β := ((⟨Cert.KernelIdeal.S_, .i32⟩ : BufTy).Contents (Elt F))) (eq0 (at_ fa0 (i := 112) rfl) :) (eq0 (at_ fb0 (i := 56) rfl) :)
  have e1 : @Eq ((⟨Cert.KernelIdeal.S2, .i32⟩ : BufTy).Contents (Elt F)) (Φ₁ (Proc.devRef .tc Cert.KernelIdeal.main_v2331)) (Φ₂ (Proc.devRef .tc Cert.ReferenceIdeal.main_v2346)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 57) rfl) :) e0
  have e2 : @Eq ((⟨Cert.KernelIdeal.S2, .i1⟩ : BufTy).Contents (Elt F)) (Φ₁ (Proc.devRef .tc Cert.KernelIdeal.main_v2332)) (Φ₂ (Proc.devRef .tc Cert.ReferenceIdeal.main_v2347)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 58) rfl) :) x0 e1
  have e3 : @Eq ((⟨Cert.KernelIdeal.S_, .i32⟩ : BufTy).Contents (Elt F)) (Φ₁ (Proc.devRef .tc Cert.KernelIdeal.main_c_709)) (Φ₂ (Proc.devRef .tc Cert.ReferenceIdeal.main_c_709)) := step0 (β := ((⟨Cert.KernelIdeal.S_, .i32⟩ : BufTy).Contents (Elt F))) (eq0 (at_ fa0 (i := 115) rfl) :) (eq0 (at_ fb0 (i := 59) rfl) :)
  have e4 : @Eq ((⟨Cert.KernelIdeal.S2, .i32⟩ : BufTy).Contents (Elt F)) (Φ₁ (Proc.devRef .tc Cert.KernelIdeal.main_v2333)) (Φ₂ (Proc.devRef .tc Cert.ReferenceIdeal.main_v2348)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb1 (i := 0) rfl) :) e3
  have e5 : @Eq ((⟨Cert.KernelIdeal.S2, .i32⟩ : BufTy).Contents (Elt F)) (Φ₁ (Proc.devRef .tc Cert.KernelIdeal.main_v2334)) (Φ₂ (Proc.devRef .tc Cert.ReferenceIdeal.main_v2349)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb1 (i := 1) rfl) :) x0 e4
  have e6 : @Eq ((⟨Cert.KernelIdeal.S2, .i32⟩ : BufTy).Contents (Elt F)) (Φ₁ (Proc.devRef .tc Cert.KernelIdeal.main_v2335)) (Φ₂ (Proc.devRef .tc Cert.ReferenceIdeal.main_v2350)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb1 (i := 2) rfl) :) e2 e5 x0
  have e7 : @Eq ((⟨Cert.KernelIdeal.S2x1, .i32⟩ : BufTy).Contents (Elt F)) (Φ₁ (Proc.devRef .tc Cert.KernelIdeal.main_v2336)) (Φ₂ (Proc.devRef .tc Cert.ReferenceIdeal.main_v2351)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb1 (i := 3) rfl) :) e6
  have e8 : @Eq ((⟨Cert.KernelIdeal.S131072x2, .f32⟩ : BufTy).Contents (Elt F)) (Φ₁ (Proc.devRef .tc Cert.KernelIdeal.main_v2337)) (Φ₂ (Proc.devRef .tc Cert.ReferenceIdeal.main_v2352)) := by rw [eq2 (at_ fa0 (i := 120) rfl), eq2 (at_ fb1 (i := 4) rfl), x1, e7] <;> rfl
  have e9 : @Eq ((⟨Cert.KernelIdeal.S131072x1, .f32⟩ : BufTy).Contents (Elt F)) (Φ₁ (Proc.devRef .tc Cert.KernelIdeal.main_v2338)) (Φ₂ (Proc.devRef .tc Cert.ReferenceIdeal.main_v2353)) := by rw [eq1 (at_ fa0 (i := 121) rfl), eq1 (at_ fb1 (i := 5) rfl), e8] <;> rfl
  have e10 : @Eq ((⟨Cert.KernelIdeal.S131072, .f32⟩ : BufTy).Contents (Elt F)) (Φ₁ (Proc.devRef .tc Cert.KernelIdeal.main_v2339)) (Φ₂ (Proc.devRef .tc Cert.ReferenceIdeal.main_v2354)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb1 (i := 6) rfl) :) e9
  have e11 : @Eq ((⟨Cert.KernelIdeal.S_, .f32⟩ : BufTy).Contents (Elt F)) (Φ₁ (Proc.devRef .tc Cert.KernelIdeal.main_cst_710)) (Φ₂ (Proc.devRef .tc Cert.ReferenceIdeal.main_cst_710)) := step0 (β := ((⟨Cert.KernelIdeal.S_, .f32⟩ : BufTy).Contents (Elt F))) (eq0 (at_ fa0 (i := 123) rfl) :) (eq0 (at_ fb1 (i := 7) rfl) :)
  have e12 : @Eq ((⟨Cert.KernelIdeal.S131072, .f32⟩ : BufTy).Contents (Elt F)) (Φ₁ (Proc.devRef .tc Cert.KernelIdeal.main_v2340)) (Φ₂ (Proc.devRef .tc Cert.ReferenceIdeal.main_v2355)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb1 (i := 8) rfl) :) e11
  have e13 : @Eq ((⟨Cert.KernelIdeal.S131072, .f32⟩ : BufTy).Contents (Elt F)) (Φ₁ (Proc.devRef .tc Cert.KernelIdeal.main_v2341)) (Φ₂ (Proc.devRef .tc Cert.ReferenceIdeal.main_v2356)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb1 (i := 9) rfl) :) e10 e12
  have e14 : @Eq ((⟨Cert.KernelIdeal.S_, .f32⟩ : BufTy).Contents (Elt F)) (Φ₁ (Proc.devRef .tc Cert.KernelIdeal.main_cst_711)) (Φ₂ (Proc.devRef .tc Cert.ReferenceIdeal.main_cst_711)) := step0 (β := ((⟨Cert.KernelIdeal.S_, .f32⟩ : BufTy).Contents (Elt F))) (eq0 (at_ fa0 (i := 126) rfl) :) (eq0 (at_ fb1 (i := 10) rfl) :)
  have e15 : @Eq ((⟨Cert.KernelIdeal.S131072, .f32⟩ : BufTy).Contents (Elt F)) (Φ₁ (Proc.devRef .tc Cert.KernelIdeal.main_v2342)) (Φ₂ (Proc.devRef .tc Cert.ReferenceIdeal.main_v2357)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 11) rfl) :) e14
  have e16 : @Eq ((⟨Cert.KernelIdeal.S131072, .f32⟩ : BufTy).Contents (Elt F)) (Φ₁ (Proc.devRef .tc Cert.KernelIdeal.main_v2343)) (Φ₂ (Proc.devRef .tc Cert.ReferenceIdeal.main_v2358)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 12) rfl) :) e13 e15
  have e17 : @Eq ((⟨Cert.KernelIdeal.S_, .f32⟩ : BufTy).Contents (Elt F)) (Φ₁ (Proc.devRef .tc Cert.KernelIdeal.main_cst_712)) (Φ₂ (Proc.devRef .tc Cert.ReferenceIdeal.main_cst_712)) := step0 (β := ((⟨Cert.KernelIdeal.S_, .f32⟩ : BufTy).Contents (Elt F))) (eq0 (at_ fa0 (i := 129) rfl) :) (eq0 (at_ fb1 (i := 13) rfl) :)
  have e18 : @Eq ((⟨Cert.KernelIdeal.S131072, .f32⟩ : BufTy).Contents (Elt F)) (Φ₁ (Proc.devRef .tc Cert.KernelIdeal.main_v2344)) (Φ₂ (Proc.devRef .tc Cert.ReferenceIdeal.main_v2359)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 14) rfl) :) e17
  have e19 : @Eq ((⟨Cert.KernelIdeal.S131072, .f32⟩ : BufTy).Contents (Elt F)) (Φ₁ (Proc.devRef .tc Cert.KernelIdeal.main_v2345)) (Φ₂ (Proc.devRef .tc Cert.ReferenceIdeal.main_v2360)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 15) rfl) :) e16 e18
  have e20 : @Eq ((⟨Cert.KernelIdeal.S131072x1, .f32⟩ : BufTy).Contents (Elt F)) (Φ₁ (Proc.devRef .tc Cert.KernelIdeal.main_v2346)) (Φ₂ (Proc.devRef .tc Cert.ReferenceIdeal.main_v2361)) := by rw [eq1 (at_ fa0 (i := 132) rfl), eq1 (at_ fb1 (i := 16) rfl), e8] <;> rfl
  have e21 : @Eq ((⟨Cert.KernelIdeal.S131072, .f32⟩ : BufTy).Contents (Elt F)) (Φ₁ (Proc.devRef .tc Cert.KernelIdeal.main_v2347)) (Φ₂ (Proc.devRef .tc Cert.ReferenceIdeal.main_v2362)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 17) rfl) :) e20
  have e22 : @Eq ((⟨Cert.KernelIdeal.S_, .f32⟩ : BufTy).Contents (Elt F)) (Φ₁ (Proc.devRef .tc Cert.KernelIdeal.main_cst_713)) (Φ₂ (Proc.devRef .tc Cert.ReferenceIdeal.main_cst_713)) := step0 (β := ((⟨Cert.KernelIdeal.S_, .f32⟩ : BufTy).Contents (Elt F))) (eq0 (at_ fa0 (i := 134) rfl) :) (eq0 (at_ fb1 (i := 18) rfl) :)
  have e23 : @Eq ((⟨Cert.KernelIdeal.S131072, .f32⟩ : BufTy).Contents (Elt F)) (Φ₁ (Proc.devRef .tc Cert.KernelIdeal.main_v2348)) (Φ₂ (Proc.devRef .tc Cert.ReferenceIdeal.main_v2363)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 19) rfl) :) e22
  have e24 : @Eq ((⟨Cert.KernelIdeal.S131072, .f32⟩ : BufTy).Contents (Elt F)) (Φ₁ (Proc.devRef .tc Cert.KernelIdeal.main_v2349)) (Φ₂ (Proc.devRef .tc Cert.ReferenceIdeal.main_v2364)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 20) rfl) :) e21 e23
  have e25 : @Eq ((⟨Cert.KernelIdeal.S_, .f32⟩ : BufTy).Contents (Elt F)) (Φ₁ (Proc.devRef .tc Cert.KernelIdeal.main_cst_714)) (Φ₂ (Proc.devRef .tc Cert.ReferenceIdeal.main_cst_714)) := step0 (β := ((⟨Cert.KernelIdeal.S_, .f32⟩ : BufTy).Contents (Elt F))) (eq0 (at_ fa0 (i := 137) rfl) :) (eq0 (at_ fb1 (i := 21) rfl) :)
  have e26 : @Eq ((⟨Cert.KernelIdeal.S131072, .f32⟩ : BufTy).Contents (Elt F)) (Φ₁ (Proc.devRef .tc Cert.KernelIdeal.main_v2350)) (Φ₂ (Proc.devRef .tc Cert.ReferenceIdeal.main_v2365)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 22) rfl) :) e25
  have e27 : @Eq ((⟨Cert.KernelIdeal.S131072, .f32⟩ : BufTy).Contents (Elt F)) (Φ₁ (Proc.devRef .tc Cert.KernelIdeal.main_v2351)) (Φ₂ (Proc.devRef .tc Cert.ReferenceIdeal.main_v2366)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 23) rfl) :) e24 e26
  have e28 : @Eq ((⟨Cert.KernelIdeal.S_, .f32⟩ : BufTy).Contents (Elt F)) (Φ₁ (Proc.devRef .tc Cert.KernelIdeal.main_cst_715)) (Φ₂ (Proc.devRef .tc Cert.ReferenceIdeal.main_cst_715)) := step0 (β := ((⟨Cert.KernelIdeal.S_, .f32⟩ : BufTy).Contents (Elt F))) (eq0 (at_ fa0 (i := 140) rfl) :) (eq0 (at_ fb1 (i := 24) rfl) :)
  have e29 : @Eq ((⟨Cert.KernelIdeal.S131072, .f32⟩ : BufTy).Contents (Elt F)) (Φ₁ (Proc.devRef .tc Cert.KernelIdeal.main_v2352)) (Φ₂ (Proc.devRef .tc Cert.ReferenceIdeal.main_v2367)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 25) rfl) :) e28
  have e30 : @Eq ((⟨Cert.KernelIdeal.S131072, .f32⟩ : BufTy).Contents (Elt F)) (Φ₁ (Proc.devRef .tc Cert.KernelIdeal.main_v2353)) (Φ₂ (Proc.devRef .tc Cert.ReferenceIdeal.main_v2368)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 26) rfl) :) e27 e29
  have e31 : @Eq ((⟨Cert.KernelIdeal.S131072, .f32⟩ : BufTy).Contents (Elt F)) (Φ₁ (Proc.devRef .tc Cert.KernelIdeal.main_v2354)) (Φ₂ (Proc.devRef .tc Cert.ReferenceIdeal.main_v2369)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 27) rfl) :) e19
  have e32 : @Eq ((⟨Cert.KernelIdeal.S131072, .f32⟩ : BufTy).Contents (Elt F)) (Φ₁ (Proc.devRef .tc Cert.KernelIdeal.main_v2355)) (Φ₂ (Proc.devRef .tc Cert.ReferenceIdeal.main_v2370)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 28) rfl) :) e30
  have e33 : @Eq ((⟨Cert.KernelIdeal.S131072, .f32⟩ : BufTy).Contents (Elt F)) (Φ₁ (Proc.devRef .tc Cert.KernelIdeal.main_v2356)) (Φ₂ (Proc.devRef .tc Cert.ReferenceIdeal.main_v2371)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 29) rfl) :) e19 e31
  have e34 : @Eq ((⟨Cert.KernelIdeal.S131072, .f32⟩ : BufTy).Contents (Elt F)) (Φ₁ (Proc.devRef .tc Cert.KernelIdeal.main_v2357)) (Φ₂ (Proc.devRef .tc Cert.ReferenceIdeal.main_v2372)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 30) rfl) :) e30 e32
  have e35 : @Eq ((⟨Cert.KernelIdeal.S131072, .i32⟩ : BufTy).Contents (Elt F)) (Φ₁ (Proc.devRef .tc Cert.KernelIdeal.main_v2358)) (Φ₂ (Proc.devRef .tc Cert.ReferenceIdeal.main_v2373)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 31) rfl) :) e31
  have e36 : @Eq ((⟨Cert.KernelIdeal.S_, .i32⟩ : BufTy).Contents (Elt F)) (Φ₁ (Proc.devRef .tc Cert.KernelIdeal.main_c_716)) (Φ₂ (Proc.devRef .tc Cert.ReferenceIdeal.main_c_716)) := step0 (β := ((⟨Cert.KernelIdeal.S_, .i32⟩ : BufTy).Contents (Elt F))) (eq0 (at_ fa0 (i := 148) rfl) :) (eq0 (at_ fb1 (i := 32) rfl) :)
  have e37 : @Eq ((⟨Cert.KernelIdeal.S_, .i32⟩ : BufTy).Contents (Elt F)) (Φ₁ (Proc.devRef .tc Cert.KernelIdeal.main_c_717)) (Φ₂ (Proc.devRef .tc Cert.ReferenceIdeal.main_c_717)) := step0 (β := ((⟨Cert.KernelIdeal.S_, .i32⟩ : BufTy).Contents (Elt F))) (eq0 (at_ fa0 (i := 149) rfl) :) (eq0 (at_ fb1 (i := 33) rfl) :)
  have e38 : @Eq ((⟨Cert.KernelIdeal.S_, .i32⟩ : BufTy).Contents (Elt F)) (Φ₁ (Proc.devRef .tc Cert.KernelIdeal.main_call72_v0)) (Φ₂ (Proc.devRef .tc Cert.ReferenceIdeal.main_call72_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 34) rfl) :) e36
  have e39 : @Eq ((⟨Cert.KernelIdeal.S131072, .i32⟩ : BufTy).Contents (Elt F)) (Φ₁ (Proc.devRef .tc Cert.KernelIdeal.main_call72_v1)) (Φ₂ (Proc.devRef .tc Cert.ReferenceIdeal.main_call72_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 35) rfl) :) e38
  have e40 : @Eq ((⟨Cert.KernelIdeal.S131072, .i32⟩ : BufTy).Contents (Elt F)) (Φ₁ (Proc.devRef .tc Cert.KernelIdeal.main_call72_v2)) (Φ₂ (Proc.devRef .tc Cert.ReferenceIdeal.main_call72_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 36) rfl) :) e39 e35
  have e41 : @Eq ((⟨Cert.KernelIdeal.S_, .i32⟩ : BufTy).Contents (Elt F)) (Φ₁ (Proc.devRef .tc Cert.KernelIdeal.main_call72_v3)) (Φ₂ (Proc.devRef .tc Cert.ReferenceIdeal.main_call72_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 37) rfl) :) e37
  have e42 : @Eq ((⟨Cert.KernelIdeal.S131072, .i32⟩ : BufTy).Contents (Elt F)) (Φ₁ (Proc.devRef .tc Cert.KernelIdeal.main_call72_v4)) (Φ₂ (Proc.devRef .tc Cert.ReferenceIdeal.main_call72_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 38) rfl) :) e41
  have e43 : @Eq ((⟨Cert.KernelIdeal.S131072, .i32⟩ : BufTy).Contents (Elt F)) (Φ₁ (Proc.devRef .tc Cert.KernelIdeal.main_v2359)) (Φ₂ (Proc.devRef .tc Cert.ReferenceIdeal.main_v2374)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 39) rfl) :) e42 e40
  have e44 : @Eq ((⟨Cert.KernelIdeal.S_, .i32⟩ : BufTy).Contents (Elt F)) (Φ₁ (Proc.devRef .tc Cert.KernelIdeal.main_c_718)) (Φ₂ (Proc.devRef .tc Cert.ReferenceIdeal.main_c_718)) := step0 (β := ((⟨Cert.KernelIdeal.S_, .i32⟩ : BufTy).Contents (Elt F))) (eq0 (at_ fa2 (i := 0) rfl) :) (eq0 (at_ fb1 (i := 40) rfl) :)
  have e45 : @Eq ((⟨Cert.KernelIdeal.S131072, .i32⟩ : BufTy).Contents (Elt F)) (Φ₁ (Proc.devRef .tc Cert.KernelIdeal.main_v2360)) (Φ₂ (Proc.devRef .tc Cert.ReferenceIdeal.main_v2375)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 41) rfl) :) e44
  have e46 : @Eq ((⟨Cert.KernelIdeal.S131072, .i32⟩ : BufTy).Contents (Elt F)) (Φ₁ (Proc.devRef .tc Cert.KernelIdeal.main_v2361)) (Φ₂ (Proc.devRef .tc Cert.ReferenceIdeal.main_v2376)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 42) rfl) :) e43 e45
  have e47 : @Eq ((⟨Cert.KernelIdeal.S_, .i32⟩ : BufTy).Contents (Elt F)) (Φ₁ (Proc.devRef .tc Cert.KernelIdeal.main_c_719)) (Φ₂ (Proc.devRef .tc Cert.ReferenceIdeal.main_c_719)) := step0 (β := ((⟨Cert.KernelIdeal.S_, .i32⟩ : BufTy).Contents (Elt F))) (eq0 (at_ fa2 (i := 3) rfl) :) (eq0 (at_ fb1 (i := 43) rfl) :)
  have e48 : @Eq ((⟨Cert.KernelIdeal.S_, .i32⟩ : BufTy).Contents (Elt F)) (Φ₁ (Proc.devRef .tc Cert.KernelIdeal.main_c_720)) (Φ₂ (Proc.devRef .tc Cert.ReferenceIdeal.main_c_720)) := step0 (β := ((⟨Cert.KernelIdeal.S_, .i32⟩ : BufTy).Contents (Elt F))) (eq0 (at_ fa2 (i := 4) rfl) :) (eq0 (at_ fb1 (i := 44) rfl) :)
  have e49 : @Eq ((⟨Cert.KernelIdeal.S_, .i32⟩ : BufTy).Contents (Elt F)) (Φ₁ (Proc.devRef .tc Cert.KernelIdeal.main_call73_v0)) (Φ₂ (Proc.devRef .tc Cert.ReferenceIdeal.main_call73_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 45) rfl) :) e47
  have e50 : @Eq ((⟨Cert.KernelIdeal.S131072, .i32⟩ : BufTy).Contents (Elt F)) (Φ₁ (Proc.devRef .tc Cert.KernelIdeal.main_call73_v1)) (Φ₂ (Proc.devRef .tc Cert.ReferenceIdeal.main_call73_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 46) rfl) :) e49
  have e51 : @Eq ((⟨Cert.KernelIdeal.S131072, .i32⟩ : BufTy).Contents (Elt F)) (Φ₁ (Proc.devRef .tc Cert.KernelIdeal.main_call73_v2)) (Φ₂ (Proc.devRef .tc Cert.ReferenceIdeal.main_call73_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 47) rfl) :) e50 e46
  have e52 : @Eq ((⟨Cert.KernelIdeal.S_, .i32⟩ : BufTy).Contents (Elt F)) (Φ₁ (Proc.devRef .tc Cert.KernelIdeal.main_call73_v3)) (Φ₂ (Proc.devRef .tc Cert.ReferenceIdeal.main_call73_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 48) rfl) :) e48
  have e53 : @Eq ((⟨Cert.KernelIdeal.S131072, .i32⟩ : BufTy).Contents (Elt F)) (Φ₁ (Proc.devRef .tc Cert.KernelIdeal.main_call73_v4)) (Φ₂ (Proc.devRef .tc Cert.ReferenceIdeal.main_call73_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 49) rfl) :) e52
  have e54 : @Eq ((⟨Cert.KernelIdeal.S131072, .i32⟩ : BufTy).Contents (Elt F)) (Φ₁ (Proc.devRef .tc Cert.KernelIdeal.main_v2362)) (Φ₂ (Proc.devRef .tc Cert.ReferenceIdeal.main_v2377)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 50) rfl) :) e53 e51
  have e55 : @Eq ((⟨Cert.KernelIdeal.S131072, .i32⟩ : BufTy).Contents (Elt F)) (Φ₁ (Proc.devRef .tc Cert.KernelIdeal.main_v2363)) (Φ₂ (Proc.devRef .tc Cert.ReferenceIdeal.main_v2378)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 51) rfl) :) e32
  have e56 : @Eq ((⟨Cert.KernelIdeal.S_, .i32⟩ : BufTy).Contents (Elt F)) (Φ₁ (Proc.devRef .tc Cert.KernelIdeal.main_c_721)) (Φ₂ (Proc.devRef .tc Cert.ReferenceIdeal.main_c_721)) := step0 (β := ((⟨Cert.KernelIdeal.S_, .i32⟩ : BufTy).Contents (Elt F))) (eq0 (at_ fa4 (i := 1) rfl) :) (eq0 (at_ fb1 (i := 52) rfl) :)
  have e57 : @Eq ((⟨Cert.KernelIdeal.S_, .i32⟩ : BufTy).Contents (Elt F)) (Φ₁ (Proc.devRef .tc Cert.KernelIdeal.main_c_722)) (Φ₂ (Proc.devRef .tc Cert.ReferenceIdeal.main_c_722)) := step0 (β := ((⟨Cert.KernelIdeal.S_, .i32⟩ : BufTy).Contents (Elt F))) (eq0 (at_ fa4 (i := 2) rfl) :) (eq0 (at_ fb1 (i := 53) rfl) :)
  have e58 : @Eq ((⟨Cert.KernelIdeal.S_, .i32⟩ : BufTy).Contents (Elt F)) (Φ₁ (Proc.devRef .tc Cert.KernelIdeal.main_call74_v0)) (Φ₂ (Proc.devRef .tc Cert.ReferenceIdeal.main_call74_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 54) rfl) :) e56
  have e59 : @Eq ((⟨Cert.KernelIdeal.S131072, .i32⟩ : BufTy).Contents (Elt F)) (Φ₁ (Proc.devRef .tc Cert.KernelIdeal.main_call74_v1)) (Φ₂ (Proc.devRef .tc Cert.ReferenceIdeal.main_call74_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 55) rfl) :) e58
  have e60 : @Eq ((⟨Cert.KernelIdeal.S131072, .i32⟩ : BufTy).Contents (Elt F)) (Φ₁ (Proc.devRef .tc Cert.KernelIdeal.main_call74_v2)) (Φ₂ (Proc.devRef .tc Cert.ReferenceIdeal.main_call74_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 56) rfl) :) e59 e55
  have e61 : @Eq ((⟨Cert.KernelIdeal.S_, .i32⟩ : BufTy).Contents (Elt F)) (Φ₁ (Proc.devRef .tc Cert.KernelIdeal.main_call74_v3)) (Φ₂ (Proc.devRef .tc Cert.ReferenceIdeal.main_call74_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 57) rfl) :) e57
  have e62 : @Eq ((⟨Cert.KernelIdeal.S131072, .i32⟩ : BufTy).Contents (Elt F)) (Φ₁ (Proc.devRef .tc Cert.KernelIdeal.main_call74_v4)) (Φ₂ (Proc.devRef .tc Cert.ReferenceIdeal.main_call74_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 58) rfl) :) e61
  have e63 : @Eq ((⟨Cert.KernelIdeal.S131072, .i32⟩ : BufTy).Contents (Elt F)) (Φ₁ (Proc.devRef .tc Cert.KernelIdeal.main_v2364)) (Φ₂ (Proc.devRef .tc Cert.ReferenceIdeal.main_v2379)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 59) rfl) :) e62 e60
  have e64 : @Eq ((⟨Cert.KernelIdeal.S_, .i32⟩ : BufTy).Contents (Elt F)) (Φ₁ (Proc.devRef .tc Cert.KernelIdeal.main_c_723)) (Φ₂ (Proc.devRef .tc Cert.ReferenceIdeal.main_c_723)) := step0 (β := ((⟨Cert.KernelIdeal.S_, .i32⟩ : BufTy).Contents (Elt F))) (eq0 (at_ fa6 (i := 0) rfl) :) (eq0 (at_ fb1 (i := 60) rfl) :)
  have e65 : @Eq ((⟨Cert.KernelIdeal.S131072, .i32⟩ : BufTy).Contents (Elt F)) (Φ₁ (Proc.devRef .tc Cert.KernelIdeal.main_v2365)) (Φ₂ (Proc.devRef .tc Cert.ReferenceIdeal.main_v2380)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 61) rfl) :) e64
  have e66 : @Eq ((⟨Cert.KernelIdeal.S131072, .i32⟩ : BufTy).Contents (Elt F)) (Φ₁ (Proc.devRef .tc Cert.KernelIdeal.main_v2366)) (Φ₂ (Proc.devRef .tc Cert.ReferenceIdeal.main_v2381)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 62) rfl) :) e63 e65
  have e67 : @Eq ((⟨Cert.KernelIdeal.S_, .i32⟩ : BufTy).Contents (Elt F)) (Φ₁ (Proc.devRef .tc Cert.KernelIdeal.main_c_724)) (Φ₂ (Proc.devRef .tc Cert.ReferenceIdeal.main_c_724)) := step0 (β := ((⟨Cert.KernelIdeal.S_, .i32⟩ : BufTy).Contents (Elt F))) (eq0 (at_ fa6 (i := 3) rfl) :) (eq0 (at_ fb1 (i := 63) rfl) :)
  have e68 : @Eq ((⟨Cert.KernelIdeal.S_, .i32⟩ : BufTy).Contents (Elt F)) (Φ₁ (Proc.devRef .tc Cert.KernelIdeal.main_c_725)) (Φ₂ (Proc.devRef .tc Cert.ReferenceIdeal.main_c_725)) := step0 (β := ((⟨Cert.KernelIdeal.S_, .i32⟩ : BufTy).Contents (Elt F))) (eq0 (at_ fa6 (i := 4) rfl) :) (eq0 (at_ fb1 (i := 64) rfl) :)
  have e69 : @Eq ((⟨Cert.KernelIdeal.S_, .i32⟩ : BufTy).Contents (Elt F)) (Φ₁ (Proc.devRef .tc Cert.KernelIdeal.main_call75_v0)) (Φ₂ (Proc.devRef .tc Cert.ReferenceIdeal.main_call75_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 65) rfl) :) e67
  have e70 : @Eq ((⟨Cert.KernelIdeal.S131072, .i32⟩ : BufTy).Contents (Elt F)) (Φ₁ (Proc.devRef .tc Cert.KernelIdeal.main_call75_v1)) (Φ₂ (Proc.devRef .tc Cert.ReferenceIdeal.main_call75_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 66) rfl) :) e69
  have e71 : @Eq ((⟨Cert.KernelIdeal.S131072, .i32⟩ : BufTy).Contents (Elt F)) (Φ₁ (Proc.devRef .tc Cert.KernelIdeal.main_call75_v2)) (Φ₂ (Proc.devRef .tc Cert.ReferenceIdeal.main_call75_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 67) rfl) :) e70 e66
  have e72 : @Eq ((⟨Cert.KernelIdeal.S_, .i32⟩ : BufTy).Contents (Elt F)) (Φ₁ (Proc.devRef .tc Cert.KernelIdeal.main_call75_v3)) (Φ₂ (Proc.devRef .tc Cert.ReferenceIdeal.main_call75_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 68) rfl) :) e68
  have e73 : @Eq ((⟨Cert.KernelIdeal.S131072, .i32⟩ : BufTy).Contents (Elt F)) (Φ₁ (Proc.devRef .tc Cert.KernelIdeal.main_call75_v4)) (Φ₂ (Proc.devRef .tc Cert.ReferenceIdeal.main_call75_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 69) rfl) :) e72
  have e74 : @Eq ((⟨Cert.KernelIdeal.S131072, .i32⟩ : BufTy).Contents (Elt F)) (Φ₁ (Proc.devRef .tc Cert.KernelIdeal.main_v2367)) (Φ₂ (Proc.devRef .tc Cert.ReferenceIdeal.main_v2382)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 70) rfl) :) e73 e71
  have e75 : @Eq ((⟨Cert.KernelIdeal.S_, .i32⟩ : BufTy).Contents (Elt F)) (Φ₁ (Proc.devRef .tc Cert.KernelIdeal.main_c_726)) (Φ₂ (Proc.devRef .tc Cert.ReferenceIdeal.main_c_726)) := step0 (β := ((⟨Cert.KernelIdeal.S_, .i32⟩ : BufTy).Contents (Elt F))) (eq0 (at_ fa8 (i := 0) rfl) :) (eq0 (at_ fb1 (i := 71) rfl) :)
  have e76 : @Eq ((⟨Cert.KernelIdeal.S131072, .i32⟩ : BufTy).Contents (Elt F)) (Φ₁ (Proc.devRef .tc Cert.KernelIdeal.main_v2368)) (Φ₂ (Proc.devRef .tc Cert.ReferenceIdeal.main_v2383)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 72) rfl) :) e75
  have e77 : @Eq ((⟨Cert.KernelIdeal.S131072, .i1⟩ : BufTy).Contents (Elt F)) (Φ₁ (Proc.devRef .tc Cert.KernelIdeal.main_v2369)) (Φ₂ (Proc.devRef .tc Cert.ReferenceIdeal.main_v2384)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 73) rfl) :) e63 e76
  have e78 : @Eq ((⟨Cert.KernelIdeal.S_, .i32⟩ : BufTy).Contents (Elt F)) (Φ₁ (Proc.devRef .tc Cert.KernelIdeal.main_c_727)) (Φ₂ (Proc.devRef .tc Cert.ReferenceIdeal.main_c_727)) := step0 (β := ((⟨Cert.KernelIdeal.S_, .i32⟩ : BufTy).Contents (Elt F))) (eq0 (at_ fa8 (i := 3) rfl) :) (eq0 (at_ fb1 (i := 74) rfl) :)
  have e79 : @Eq ((⟨Cert.KernelIdeal.S131072, .i32⟩ : BufTy).Contents (Elt F)) (Φ₁ (Proc.devRef .tc Cert.KernelIdeal.main_v2370)) (Φ₂ (Proc.devRef .tc Cert.ReferenceIdeal.main_v2385)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 75) rfl) :) e78
  have e80 : @Eq ((⟨Cert.KernelIdeal.S131072, .i32⟩ : BufTy).Contents (Elt F)) (Φ₁ (Proc.devRef .tc Cert.KernelIdeal.main_v2371)) (Φ₂ (Proc.devRef .tc Cert.ReferenceIdeal.main_v2386)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 76) rfl) :) e63 e79
  have e81 : @Eq ((⟨Cert.KernelIdeal.S131072, .i32⟩ : BufTy).Contents (Elt F)) (Φ₁ (Proc.devRef .tc Cert.KernelIdeal.main_v2372)) (Φ₂ (Proc.devRef .tc Cert.ReferenceIdeal.main_v2387)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 77) rfl) :) e77 e80 e63
  have e82 : @Eq ((⟨Cert.KernelIdeal.S_, .i32⟩ : BufTy).Contents (Elt F)) (Φ₁ (Proc.devRef .tc Cert.KernelIdeal.main_c_728)) (Φ₂ (Proc.devRef .tc Cert.ReferenceIdeal.main_c_728)) := step0 (β := ((⟨Cert.KernelIdeal.S_, .i32⟩ : BufTy).Contents (Elt F))) (eq0 (at_ fa8 (i := 7) rfl) :) (eq0 (at_ fb1 (i := 78) rfl) :)
  have e83 : @Eq ((⟨Cert.KernelIdeal.S131072, .i32⟩ : BufTy).Contents (Elt F)) (Φ₁ (Proc.devRef .tc Cert.KernelIdeal.main_v2373)) (Φ₂ (Proc.devRef .tc Cert.ReferenceIdeal.main_v2388)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 79) rfl) :) e82
  have e84 : @Eq ((⟨Cert.KernelIdeal.S131072, .i1⟩ : BufTy).Contents (Elt F)) (Φ₁ (Proc.devRef .tc Cert.KernelIdeal.main_v2374)) (Φ₂ (Proc.devRef .tc Cert.ReferenceIdeal.main_v2389)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb2 (i := 0) rfl) :) e43 e83
  have e85 : @Eq ((⟨Cert.KernelIdeal.S_, .i32⟩ : BufTy).Contents (Elt F)) (Φ₁ (Proc.devRef .tc Cert.KernelIdeal.main_c_729)) (Φ₂ (Proc.devRef .tc Cert.ReferenceIdeal.main_c_729)) := step0 (β := ((⟨Cert.KernelIdeal.S_, .i32⟩ : BufTy).Contents (Elt F))) (eq0 (at_ fa8 (i := 10) rfl) :) (eq0 (at_ fb2 (i := 1) rfl) :)
  have e86 : @Eq ((⟨Cert.KernelIdeal.S131072, .i32⟩ : BufTy).Contents (Elt F)) (Φ₁ (Proc.devRef .tc Cert.KernelIdeal.main_v2375)) (Φ₂ (Proc.devRef .tc Cert.ReferenceIdeal.main_v2390)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb2 (i := 2) rfl) :) e85
  have e87 : @Eq ((⟨Cert.KernelIdeal.S131072, .i32⟩ : BufTy).Contents (Elt F)) (Φ₁ (Proc.devRef .tc Cert.KernelIdeal.main_v2376)) (Φ₂ (Proc.devRef .tc Cert.ReferenceIdeal.main_v2391)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb2 (i := 3) rfl) :) e43 e86
  have e88 : @Eq ((⟨Cert.KernelIdeal.S131072, .i32⟩ : BufTy).Contents (Elt F)) (Φ₁ (Proc.devRef .tc Cert.KernelIdeal.main_v2377)) (Φ₂ (Proc.devRef .tc Cert.ReferenceIdeal.main_v2392)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb2 (i := 4) rfl) :) e84 e87 e43
  have e89 : @Eq ((⟨Cert.KernelIdeal.S131072x1, .i32⟩ : BufTy).Contents (Elt F)) (Φ₁ (Proc.devRef .tc Cert.KernelIdeal.main_v2378)) (Φ₂ (Proc.devRef .tc Cert.ReferenceIdeal.main_v2393)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb2 (i := 5) rfl) :) e81
  have e90 : @Eq ((⟨Cert.KernelIdeal.S131072x1, .i32⟩ : BufTy).Contents (Elt F)) (Φ₁ (Proc.devRef .tc Cert.KernelIdeal.main_v2379)) (Φ₂ (Proc.devRef .tc Cert.ReferenceIdeal.main_v2394)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb2 (i := 6) rfl) :) e88
  have e91 : @Eq ((⟨Cert.KernelIdeal.S131072x2, .i32⟩ : BufTy).Contents (Elt F)) (Φ₁ (Proc.devRef .tc Cert.KernelIdeal.main_v2380)) (Φ₂ (Proc.devRef .tc Cert.ReferenceIdeal.main_v2395)) := by rw [eq2 (at_ fa8 (i := 16) rfl), eq2 (at_ fb2 (i := 7) rfl), e89, e90] <;> rfl
  have e92 : @Eq ((⟨Cert.KernelIdeal.S32x131072, .f32⟩ : BufTy).Contents (Elt F)) (Φ₁ (Proc.devRef .tc Cert.KernelIdeal.main_v2381)) (Φ₂ (Proc.devRef .tc Cert.ReferenceIdeal.main_v2396)) := by rw [eq2 (at_ fa8 (i := 17) rfl), eq2 (at_ fb2 (i := 8) rfl), x2, e91] <;> rfl
  have e93 : @Eq ((⟨Cert.KernelIdeal.S_, .i32⟩ : BufTy).Contents (Elt F)) (Φ₁ (Proc.devRef .tc Cert.KernelIdeal.main_c_730)) (Φ₂ (Proc.devRef .tc Cert.ReferenceIdeal.main_c_730)) := step0 (β := ((⟨Cert.KernelIdeal.S_, .i32⟩ : BufTy).Contents (Elt F))) (eq0 (at_ fa8 (i := 18) rfl) :) (eq0 (at_ fb2 (i := 9) rfl) :)
  have e94 : @Eq ((⟨Cert.KernelIdeal.S131072, .i32⟩ : BufTy).Contents (Elt F)) (Φ₁ (Proc.devRef .tc Cert.KernelIdeal.main_v2382)) (Φ₂ (Proc.devRef .tc Cert.ReferenceIdeal.main_v2397)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb2 (i := 10) rfl) :) e93
  have e95 : @Eq ((⟨Cert.KernelIdeal.S131072, .i1⟩ : BufTy).Contents (Elt F)) (Φ₁ (Proc.devRef .tc Cert.KernelIdeal.main_v2383)) (Φ₂ (Proc.devRef .tc Cert.ReferenceIdeal.main_v2398)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 11) rfl) :) e63 e94
  have e96 : @Eq ((⟨Cert.KernelIdeal.S_, .i32⟩ : BufTy).Contents (Elt F)) (Φ₁ (Proc.devRef .tc Cert.KernelIdeal.main_c_731)) (Φ₂ (Proc.devRef .tc Cert.ReferenceIdeal.main_c_731)) := step0 (β := ((⟨Cert.KernelIdeal.S_, .i32⟩ : BufTy).Contents (Elt F))) (eq0 (at_ fa8 (i := 21) rfl) :) (eq0 (at_ fb2 (i := 12) rfl) :)
  have e97 : @Eq ((⟨Cert.KernelIdeal.S131072, .i32⟩ : BufTy).Contents (Elt F)) (Φ₁ (Proc.devRef .tc Cert.KernelIdeal.main_v2384)) (Φ₂ (Proc.devRef .tc Cert.ReferenceIdeal.main_v2399)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 13) rfl) :) e96
  have e98 : @Eq ((⟨Cert.KernelIdeal.S131072, .i32⟩ : BufTy).Contents (Elt F)) (Φ₁ (Proc.devRef .tc Cert.KernelIdeal.main_v2385)) (Φ₂ (Proc.devRef .tc Cert.ReferenceIdeal.main_v2400)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 14) rfl) :) e63 e97
  have e99 : @Eq ((⟨Cert.KernelIdeal.S131072, .i32⟩ : BufTy).Contents (Elt F)) (Φ₁ (Proc.devRef .tc Cert.KernelIdeal.main_v2386)) (Φ₂ (Proc.devRef .tc Cert.ReferenceIdeal.main_v2401)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 15) rfl) :) e95 e98 e63
  have e100 : @Eq ((⟨Cert.KernelIdeal.S_, .i32⟩ : BufTy).Contents (Elt F)) (Φ₁ (Proc.devRef .tc Cert.KernelIdeal.main_c_732)) (Φ₂ (Proc.devRef .tc Cert.ReferenceIdeal.main_c_732)) := step0 (β := ((⟨Cert.KernelIdeal.S_, .i32⟩ : BufTy).Contents (Elt F))) (eq0 (at_ fa8 (i := 25) rfl) :) (eq0 (at_ fb2 (i := 16) rfl) :)
  have e101 : @Eq ((⟨Cert.KernelIdeal.S131072, .i32⟩ : BufTy).Contents (Elt F)) (Φ₁ (Proc.devRef .tc Cert.KernelIdeal.main_v2387)) (Φ₂ (Proc.devRef .tc Cert.ReferenceIdeal.main_v2402)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 17) rfl) :) e100
  have e102 : @Eq ((⟨Cert.KernelIdeal.S131072, .i1⟩ : BufTy).Contents (Elt F)) (Φ₁ (Proc.devRef .tc Cert.KernelIdeal.main_v2388)) (Φ₂ (Proc.devRef .tc Cert.ReferenceIdeal.main_v2403)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 18) rfl) :) e54 e101
  have e103 : @Eq ((⟨Cert.KernelIdeal.S_, .i32⟩ : BufTy).Contents (Elt F)) (Φ₁ (Proc.devRef .tc Cert.KernelIdeal.main_c_733)) (Φ₂ (Proc.devRef .tc Cert.ReferenceIdeal.main_c_733)) := step0 (β := ((⟨Cert.KernelIdeal.S_, .i32⟩ : BufTy).Contents (Elt F))) (eq0 (at_ fa8 (i := 28) rfl) :) (eq0 (at_ fb2 (i := 19) rfl) :)
  have e104 : @Eq ((⟨Cert.KernelIdeal.S131072, .i32⟩ : BufTy).Contents (Elt F)) (Φ₁ (Proc.devRef .tc Cert.KernelIdeal.main_v2389)) (Φ₂ (Proc.devRef .tc Cert.ReferenceIdeal.main_v2404)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 20) rfl) :) e103
  have e105 : @Eq ((⟨Cert.KernelIdeal.S131072, .i32⟩ : BufTy).Contents (Elt F)) (Φ₁ (Proc.devRef .tc Cert.KernelIdeal.main_v2390)) (Φ₂ (Proc.devRef .tc Cert.ReferenceIdeal.main_v2405)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 21) rfl) :) e54 e104
  have e106 : @Eq ((⟨Cert.KernelIdeal.S131072, .i32⟩ : BufTy).Contents (Elt F)) (Φ₁ (Proc.devRef .tc Cert.KernelIdeal.main_v2391)) (Φ₂ (Proc.devRef .tc Cert.ReferenceIdeal.main_v2406)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 22) rfl) :) e102 e105 e54
  have e107 : @Eq ((⟨Cert.KernelIdeal.S131072x1, .i32⟩ : BufTy).Contents (Elt F)) (Φ₁ (Proc.devRef .tc Cert.KernelIdeal.main_v2392)) (Φ₂ (Proc.devRef .tc Cert.ReferenceIdeal.main_v2407)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 23) rfl) :) e99
  have e108 : @Eq ((⟨Cert.KernelIdeal.S131072x1, .i32⟩ : BufTy).Contents (Elt F)) (Φ₁ (Proc.devRef .tc Cert.KernelIdeal.main_v2393)) (Φ₂ (Proc.devRef .tc Cert.ReferenceIdeal.main_v2408)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 24) rfl) :) e106
  have e109 : @Eq ((⟨Cert.KernelIdeal.S131072x2, .i32⟩ : BufTy).Contents (Elt F)) (Φ₁ (Proc.devRef .tc Cert.KernelIdeal.main_v2394)) (Φ₂ (Proc.devRef .tc Cert.ReferenceIdeal.main_v2409)) := by rw [eq2 (at_ fa8 (i := 34) rfl), eq2 (at_ fb2 (i := 25) rfl), e107, e108] <;> rfl
  have e110 : @Eq ((⟨Cert.KernelIdeal.S32x131072, .f32⟩ : BufTy).Contents (Elt F)) (Φ₁ (Proc.devRef .tc Cert.KernelIdeal.main_v2395)) (Φ₂ (Proc.devRef .tc Cert.ReferenceIdeal.main_v2410)) := by rw [eq2 (at_ fa8 (i := 35) rfl), eq2 (at_ fb2 (i := 26) rfl), x2, e109] <;> rfl
  have e111 : @Eq ((⟨Cert.KernelIdeal.S_, .i32⟩ : BufTy).Contents (Elt F)) (Φ₁ (Proc.devRef .tc Cert.KernelIdeal.main_c_734)) (Φ₂ (Proc.devRef .tc Cert.ReferenceIdeal.main_c_734)) := step0 (β := ((⟨Cert.KernelIdeal.S_, .i32⟩ : BufTy).Contents (Elt F))) (eq0 (at_ fa8 (i := 36) rfl) :) (eq0 (at_ fb2 (i := 27) rfl) :)
  have e112 : @Eq ((⟨Cert.KernelIdeal.S131072, .i32⟩ : BufTy).Contents (Elt F)) (Φ₁ (Proc.devRef .tc Cert.KernelIdeal.main_v2396)) (Φ₂ (Proc.devRef .tc Cert.ReferenceIdeal.main_v2411)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 28) rfl) :) e111
  have e113 : @Eq ((⟨Cert.KernelIdeal.S131072, .i1⟩ : BufTy).Contents (Elt F)) (Φ₁ (Proc.devRef .tc Cert.KernelIdeal.main_v2397)) (Φ₂ (Proc.devRef .tc Cert.ReferenceIdeal.main_v2412)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 29) rfl) :) e74 e112
  have e114 : @Eq ((⟨Cert.KernelIdeal.S_, .i32⟩ : BufTy).Contents (Elt F)) (Φ₁ (Proc.devRef .tc Cert.KernelIdeal.main_c_735)) (Φ₂ (Proc.devRef .tc Cert.ReferenceIdeal.main_c_735)) := step0 (β := ((⟨Cert.KernelIdeal.S_, .i32⟩ : BufTy).Contents (Elt F))) (eq0 (at_ fa8 (i := 39) rfl) :) (eq0 (at_ fb2 (i := 30) rfl) :)
  have e115 : @Eq ((⟨Cert.KernelIdeal.S131072, .i32⟩ : BufTy).Contents (Elt F)) (Φ₁ (Proc.devRef .tc Cert.KernelIdeal.main_v2398)) (Φ₂ (Proc.devRef .tc Cert.ReferenceIdeal.main_v2413)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 31) rfl) :) e114
  have e116 : @Eq ((⟨Cert.KernelIdeal.S131072, .i32⟩ : BufTy).Contents (Elt F)) (Φ₁ (Proc.devRef .tc Cert.KernelIdeal.main_v2399)) (Φ₂ (Proc.devRef .tc Cert.ReferenceIdeal.main_v2414)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 32) rfl) :) e74 e115
  have e117 : @Eq ((⟨Cert.KernelIdeal.S131072, .i32⟩ : BufTy).Contents (Elt F)) (Φ₁ (Proc.devRef .tc Cert.KernelIdeal.main_v2400)) (Φ₂ (Proc.devRef .tc Cert.ReferenceIdeal.main_v2415)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 33) rfl) :) e113 e116 e74
  have e118 : @Eq ((⟨Cert.KernelIdeal.S_, .i32⟩ : BufTy).Contents (Elt F)) (Φ₁ (Proc.devRef .tc Cert.KernelIdeal.main_c_736)) (Φ₂ (Proc.devRef .tc Cert.ReferenceIdeal.main_c_736)) := step0 (β := ((⟨Cert.KernelIdeal.S_, .i32⟩ : BufTy).Contents (Elt F))) (eq0 (at_ fa8 (i := 43) rfl) :) (eq0 (at_ fb2 (i := 34) rfl) :)
  have e119 : @Eq ((⟨Cert.KernelIdeal.S131072, .i32⟩ : BufTy).Contents (Elt F)) (Φ₁ (Proc.devRef .tc Cert.KernelIdeal.main_v2401)) (Φ₂ (Proc.devRef .tc Cert.ReferenceIdeal.main_v2416)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 35) rfl) :) e118
  have e120 : @Eq ((⟨Cert.KernelIdeal.S131072, .i1⟩ : BufTy).Contents (Elt F)) (Φ₁ (Proc.devRef .tc Cert.KernelIdeal.main_v2402)) (Φ₂ (Proc.devRef .tc Cert.ReferenceIdeal.main_v2417)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 36) rfl) :) e43 e119
  have e121 : @Eq ((⟨Cert.KernelIdeal.S_, .i32⟩ : BufTy).Contents (Elt F)) (Φ₁ (Proc.devRef .tc Cert.KernelIdeal.main_c_737)) (Φ₂ (Proc.devRef .tc Cert.ReferenceIdeal.main_c_737)) := step0 (β := ((⟨Cert.KernelIdeal.S_, .i32⟩ : BufTy).Contents (Elt F))) (eq0 (at_ fa8 (i := 46) rfl) :) (eq0 (at_ fb2 (i := 37) rfl) :)
  have e122 : @Eq ((⟨Cert.KernelIdeal.S131072, .i32⟩ : BufTy).Contents (Elt F)) (Φ₁ (Proc.devRef .tc Cert.KernelIdeal.main_v2403)) (Φ₂ (Proc.devRef .tc Cert.ReferenceIdeal.main_v2418)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 38) rfl) :) e121
  have e123 : @Eq ((⟨Cert.KernelIdeal.S131072, .i32⟩ : BufTy).Contents (Elt F)) (Φ₁ (Proc.devRef .tc Cert.KernelIdeal.main_v2404)) (Φ₂ (Proc.devRef .tc Cert.ReferenceIdeal.main_v2419)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 39) rfl) :) e43 e122
  have e124 : @Eq ((⟨Cert.KernelIdeal.S131072, .i32⟩ : BufTy).Contents (Elt F)) (Φ₁ (Proc.devRef .tc Cert.KernelIdeal.main_v2405)) (Φ₂ (Proc.devRef .tc Cert.ReferenceIdeal.main_v2420)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 40) rfl) :) e120 e123 e43
  have e125 : @Eq ((⟨Cert.KernelIdeal.S131072x1, .i32⟩ : BufTy).Contents (Elt F)) (Φ₁ (Proc.devRef .tc Cert.KernelIdeal.main_v2406)) (Φ₂ (Proc.devRef .tc Cert.ReferenceIdeal.main_v2421)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 41) rfl) :) e117
  have e126 : @Eq ((⟨Cert.KernelIdeal.S131072x1, .i32⟩ : BufTy).Contents (Elt F)) (Φ₁ (Proc.devRef .tc Cert.KernelIdeal.main_v2407)) (Φ₂ (Proc.devRef .tc Cert.ReferenceIdeal.main_v2422)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 42) rfl) :) e124
  have e127 : @Eq ((⟨Cert.KernelIdeal.S131072x2, .i32⟩ : BufTy).Contents (Elt F)) (Φ₁ (Proc.devRef .tc Cert.KernelIdeal.main_v2408)) (Φ₂ (Proc.devRef .tc Cert.ReferenceIdeal.main_v2423)) := by rw [eq2 (at_ fa8 (i := 52) rfl), eq2 (at_ fb2 (i := 43) rfl), e125, e126] <;> rfl
  have e128 : @Eq ((⟨Cert.KernelIdeal.S32x131072, .f32⟩ : BufTy).Contents (Elt F)) (Φ₁ (Proc.devRef .tc Cert.KernelIdeal.main_v2409)) (Φ₂ (Proc.devRef .tc Cert.ReferenceIdeal.main_v2424)) := by rw [eq2 (at_ fa8 (i := 53) rfl), eq2 (at_ fb2 (i := 44) rfl), x2, e127] <;> rfl
  have e129 : @Eq ((⟨Cert.KernelIdeal.S_, .i32⟩ : BufTy).Contents (Elt F)) (Φ₁ (Proc.devRef .tc Cert.KernelIdeal.main_c_738)) (Φ₂ (Proc.devRef .tc Cert.ReferenceIdeal.main_c_738)) := step0 (β := ((⟨Cert.KernelIdeal.S_, .i32⟩ : BufTy).Contents (Elt F))) (eq0 (at_ fa8 (i := 54) rfl) :) (eq0 (at_ fb2 (i := 45) rfl) :)
  have e130 : @Eq ((⟨Cert.KernelIdeal.S131072, .i32⟩ : BufTy).Contents (Elt F)) (Φ₁ (Proc.devRef .tc Cert.KernelIdeal.main_v2410)) (Φ₂ (Proc.devRef .tc Cert.ReferenceIdeal.main_v2425)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 46) rfl) :) e129
  have e131 : @Eq ((⟨Cert.KernelIdeal.S131072, .i1⟩ : BufTy).Contents (Elt F)) (Φ₁ (Proc.devRef .tc Cert.KernelIdeal.main_v2411)) (Φ₂ (Proc.devRef .tc Cert.ReferenceIdeal.main_v2426)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 47) rfl) :) e74 e130
  have e132 : @Eq ((⟨Cert.KernelIdeal.S_, .i32⟩ : BufTy).Contents (Elt F)) (Φ₁ (Proc.devRef .tc Cert.KernelIdeal.main_c_739)) (Φ₂ (Proc.devRef .tc Cert.ReferenceIdeal.main_c_739)) := step0 (β := ((⟨Cert.KernelIdeal.S_, .i32⟩ : BufTy).Contents (Elt F))) (eq0 (at_ fa8 (i := 57) rfl) :) (eq0 (at_ fb2 (i := 48) rfl) :)
  have e133 : @Eq ((⟨Cert.KernelIdeal.S131072, .i32⟩ : BufTy).Contents (Elt F)) (Φ₁ (Proc.devRef .tc Cert.KernelIdeal.main_v2412)) (Φ₂ (Proc.devRef .tc Cert.ReferenceIdeal.main_v2427)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 49) rfl) :) e132
  have e134 : @Eq ((⟨Cert.KernelIdeal.S131072, .i32⟩ : BufTy).Contents (Elt F)) (Φ₁ (Proc.devRef .tc Cert.KernelIdeal.main_v2413)) (Φ₂ (Proc.devRef .tc Cert.ReferenceIdeal.main_v2428)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 50) rfl) :) e74 e133
  have e135 : @Eq ((⟨Cert.KernelIdeal.S131072, .i32⟩ : BufTy).Contents (Elt F)) (Φ₁ (Proc.devRef .tc Cert.KernelIdeal.main_v2414)) (Φ₂ (Proc.devRef .tc Cert.ReferenceIdeal.main_v2429)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 51) rfl) :) e131 e134 e74
  have e136 : @Eq ((⟨Cert.KernelIdeal.S_, .i32⟩ : BufTy).Contents (Elt F)) (Φ₁ (Proc.devRef .tc Cert.KernelIdeal.main_c_740)) (Φ₂ (Proc.devRef .tc Cert.ReferenceIdeal.main_c_740)) := step0 (β := ((⟨Cert.KernelIdeal.S_, .i32⟩ : BufTy).Contents (Elt F))) (eq0 (at_ fa8 (i := 61) rfl) :) (eq0 (at_ fb2 (i := 52) rfl) :)
  have e137 : @Eq ((⟨Cert.KernelIdeal.S131072, .i32⟩ : BufTy).Contents (Elt F)) (Φ₁ (Proc.devRef .tc Cert.KernelIdeal.main_v2415)) (Φ₂ (Proc.devRef .tc Cert.ReferenceIdeal.main_v2430)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 53) rfl) :) e136
  have e138 : @Eq ((⟨Cert.KernelIdeal.S131072, .i1⟩ : BufTy).Contents (Elt F)) (Φ₁ (Proc.devRef .tc Cert.KernelIdeal.main_v2416)) (Φ₂ (Proc.devRef .tc Cert.ReferenceIdeal.main_v2431)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 54) rfl) :) e54 e137
  have e139 : @Eq ((⟨Cert.KernelIdeal.S_, .i32⟩ : BufTy).Contents (Elt F)) (Φ₁ (Proc.devRef .tc Cert.KernelIdeal.main_c_741)) (Φ₂ (Proc.devRef .tc Cert.ReferenceIdeal.main_c_741)) := step0 (β := ((⟨Cert.KernelIdeal.S_, .i32⟩ : BufTy).Contents (Elt F))) (eq0 (at_ fa8 (i := 64) rfl) :) (eq0 (at_ fb2 (i := 55) rfl) :)
  have e140 : @Eq ((⟨Cert.KernelIdeal.S131072, .i32⟩ : BufTy).Contents (Elt F)) (Φ₁ (Proc.devRef .tc Cert.KernelIdeal.main_v2417)) (Φ₂ (Proc.devRef .tc Cert.ReferenceIdeal.main_v2432)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 56) rfl) :) e139
  have e141 : @Eq ((⟨Cert.KernelIdeal.S131072, .i32⟩ : BufTy).Contents (Elt F)) (Φ₁ (Proc.devRef .tc Cert.KernelIdeal.main_v2418)) (Φ₂ (Proc.devRef .tc Cert.ReferenceIdeal.main_v2433)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 57) rfl) :) e54 e140
  have e142 : @Eq ((⟨Cert.KernelIdeal.S131072, .i32⟩ : BufTy).Contents (Elt F)) (Φ₁ (Proc.devRef .tc Cert.KernelIdeal.main_v2419)) (Φ₂ (Proc.devRef .tc Cert.ReferenceIdeal.main_v2434)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 58) rfl) :) e138 e141 e54
  have e143 : @Eq ((⟨Cert.KernelIdeal.S131072x1, .i32⟩ : BufTy).Contents (Elt F)) (Φ₁ (Proc.devRef .tc Cert.KernelIdeal.main_v2420)) (Φ₂ (Proc.devRef .tc Cert.ReferenceIdeal.main_v2435)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 59) rfl) :) e135
  have e144 : @Eq ((⟨Cert.KernelIdeal.S131072x1, .i32⟩ : BufTy).Contents (Elt F)) (Φ₁ (Proc.devRef .tc Cert.KernelIdeal.main_v2421)) (Φ₂ (Proc.devRef .tc Cert.ReferenceIdeal.main_v2436)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb3 (i := 0) rfl) :) e142
  have e145 : @Eq ((⟨Cert.KernelIdeal.S131072x2, .i32⟩ : BufTy).Contents (Elt F)) (Φ₁ (Proc.devRef .tc Cert.KernelIdeal.main_v2422)) (Φ₂ (Proc.devRef .tc Cert.ReferenceIdeal.main_v2437)) := by rw [eq2 (at_ fa8 (i := 70) rfl), eq2 (at_ fb3 (i := 1) rfl), e143, e144] <;> rfl
  have e146 : @Eq ((⟨Cert.KernelIdeal.S32x131072, .f32⟩ : BufTy).Contents (Elt F)) (Φ₁ (Proc.devRef .tc Cert.KernelIdeal.main_v2423)) (Φ₂ (Proc.devRef .tc Cert.ReferenceIdeal.main_v2438)) := by rw [eq2 (at_ fa8 (i := 71) rfl), eq2 (at_ fb3 (i := 2) rfl), x2, e145] <;> rfl
  have e147 : @Eq ((⟨Cert.KernelIdeal.S_, .f32⟩ : BufTy).Contents (Elt F)) (Φ₁ (Proc.devRef .tc Cert.KernelIdeal.main_cst_742)) (Φ₂ (Proc.devRef .tc Cert.ReferenceIdeal.main_cst_742)) := step0 (β := ((⟨Cert.KernelIdeal.S_, .f32⟩ : BufTy).Contents (Elt F))) (eq0 (at_ fa8 (i := 72) rfl) :) (eq0 (at_ fb3 (i := 3) rfl) :)
  have e148 : @Eq ((⟨Cert.KernelIdeal.S131072, .f32⟩ : BufTy).Contents (Elt F)) (Φ₁ (Proc.devRef .tc Cert.KernelIdeal.main_v2424)) (Φ₂ (Proc.devRef .tc Cert.ReferenceIdeal.main_v2439)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb3 (i := 4) rfl) :) e147
  have e149 : @Eq ((⟨Cert.KernelIdeal.S131072, .f32⟩ : BufTy).Contents (Elt F)) (Φ₁ (Proc.devRef .tc Cert.KernelIdeal.main_v2425)) (Φ₂ (Proc.devRef .tc Cert.ReferenceIdeal.main_v2440)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb3 (i := 5) rfl) :) e148 e33
  have e150 : @Eq ((⟨Cert.KernelIdeal.S1x131072, .f32⟩ : BufTy).Contents (Elt F)) (Φ₁ (Proc.devRef .tc Cert.KernelIdeal.main_v2426)) (Φ₂ (Proc.devRef .tc Cert.ReferenceIdeal.main_v2441)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb3 (i := 6) rfl) :) e149
  have e151 : @Eq ((⟨Cert.KernelIdeal.S32x131072, .f32⟩ : BufTy).Contents (Elt F)) (Φ₁ (Proc.devRef .tc Cert.KernelIdeal.main_v2427)) (Φ₂ (Proc.devRef .tc Cert.ReferenceIdeal.main_v2442)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb3 (i := 7) rfl) :) e150
  have e152 : @Eq ((⟨Cert.KernelIdeal.S32x131072, .f32⟩ : BufTy).Contents (Elt F)) (Φ₁ (Proc.devRef .tc Cert.KernelIdeal.main_v2428)) (Φ₂ (Proc.devRef .tc Cert.ReferenceIdeal.main_v2443)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb3 (i := 8) rfl) :) e92 e151
  have e153 : @Eq ((⟨Cert.KernelIdeal.S_, .f32⟩ : BufTy).Contents (Elt F)) (Φ₁ (Proc.devRef .tc Cert.KernelIdeal.main_cst_743)) (Φ₂ (Proc.devRef .tc Cert.ReferenceIdeal.main_cst_743)) := step0 (β := ((⟨Cert.KernelIdeal.S_, .f32⟩ : BufTy).Contents (Elt F))) (eq0 (at_ fa8 (i := 78) rfl) :) (eq0 (at_ fb3 (i := 9) rfl) :)
  have e154 : @Eq ((⟨Cert.KernelIdeal.S131072, .f32⟩ : BufTy).Contents (Elt F)) (Φ₁ (Proc.devRef .tc Cert.KernelIdeal.main_v2429)) (Φ₂ (Proc.devRef .tc Cert.ReferenceIdeal.main_v2444)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb3 (i := 10) rfl) :) e153
  have e155 : @Eq ((⟨Cert.KernelIdeal.S131072, .f32⟩ : BufTy).Contents (Elt F)) (Φ₁ (Proc.devRef .tc Cert.KernelIdeal.main_v2430)) (Φ₂ (Proc.devRef .tc Cert.ReferenceIdeal.main_v2445)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 11) rfl) :) e154 e34
  have e156 : @Eq ((⟨Cert.KernelIdeal.S1x131072, .f32⟩ : BufTy).Contents (Elt F)) (Φ₁ (Proc.devRef .tc Cert.KernelIdeal.main_v2431)) (Φ₂ (Proc.devRef .tc Cert.ReferenceIdeal.main_v2446)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 12) rfl) :) e155
  have e157 : @Eq ((⟨Cert.KernelIdeal.S32x131072, .f32⟩ : BufTy).Contents (Elt F)) (Φ₁ (Proc.devRef .tc Cert.KernelIdeal.main_v2432)) (Φ₂ (Proc.devRef .tc Cert.ReferenceIdeal.main_v2447)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 13) rfl) :) e156
  have e158 : @Eq ((⟨Cert.KernelIdeal.S32x131072, .f32⟩ : BufTy).Contents (Elt F)) (Φ₁ (Proc.devRef .tc Cert.KernelIdeal.main_v2433)) (Φ₂ (Proc.devRef .tc Cert.ReferenceIdeal.main_v2448)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 14) rfl) :) e152 e157
  have e159 : @Eq ((⟨Cert.KernelIdeal.S1x131072, .f32⟩ : BufTy).Contents (Elt F)) (Φ₁ (Proc.devRef .tc Cert.KernelIdeal.main_v2434)) (Φ₂ (Proc.devRef .tc Cert.ReferenceIdeal.main_v2449)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 15) rfl) :) e33
  have e160 : @Eq ((⟨Cert.KernelIdeal.S32x131072, .f32⟩ : BufTy).Contents (Elt F)) (Φ₁ (Proc.devRef .tc Cert.KernelIdeal.main_v2435)) (Φ₂ (Proc.devRef .tc Cert.ReferenceIdeal.main_v2450)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 16) rfl) :) e159
  have e161 : @Eq ((⟨Cert.KernelIdeal.S32x131072, .f32⟩ : BufTy).Contents (Elt F)) (Φ₁ (Proc.devRef .tc Cert.KernelIdeal.main_v2436)) (Φ₂ (Proc.devRef .tc Cert.ReferenceIdeal.main_v2451)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 17) rfl) :) e110 e160
  have e162 : @Eq ((⟨Cert.KernelIdeal.S_, .f32⟩ : BufTy).Contents (Elt F)) (Φ₁ (Proc.devRef .tc Cert.KernelIdeal.main_cst_744)) (Φ₂ (Proc.devRef .tc Cert.ReferenceIdeal.main_cst_744)) := step0 (β := ((⟨Cert.KernelIdeal.S_, .f32⟩ : BufTy).Contents (Elt F))) (eq0 (at_ fa8 (i := 87) rfl) :) (eq0 (at_ fb3 (i := 18) rfl) :)
  have e163 : @Eq ((⟨Cert.KernelIdeal.S131072, .f32⟩ : BufTy).Contents (Elt F)) (Φ₁ (Proc.devRef .tc Cert.KernelIdeal.main_v2437)) (Φ₂ (Proc.devRef .tc Cert.ReferenceIdeal.main_v2452)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 19) rfl) :) e162
  have e164 : @Eq ((⟨Cert.KernelIdeal.S131072, .f32⟩ : BufTy).Contents (Elt F)) (Φ₁ (Proc.devRef .tc Cert.KernelIdeal.main_v2438)) (Φ₂ (Proc.devRef .tc Cert.ReferenceIdeal.main_v2453)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 20) rfl) :) e163 e34
  have e165 : @Eq ((⟨Cert.KernelIdeal.S1x131072, .f32⟩ : BufTy).Contents (Elt F)) (Φ₁ (Proc.devRef .tc Cert.KernelIdeal.main_v2439)) (Φ₂ (Proc.devRef .tc Cert.ReferenceIdeal.main_v2454)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 21) rfl) :) e164
  have e166 : @Eq ((⟨Cert.KernelIdeal.S32x131072, .f32⟩ : BufTy).Contents (Elt F)) (Φ₁ (Proc.devRef .tc Cert.KernelIdeal.main_v2440)) (Φ₂ (Proc.devRef .tc Cert.ReferenceIdeal.main_v2455)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 22) rfl) :) e165
  have e167 : @Eq ((⟨Cert.KernelIdeal.S32x131072, .f32⟩ : BufTy).Contents (Elt F)) (Φ₁ (Proc.devRef .tc Cert.KernelIdeal.main_v2441)) (Φ₂ (Proc.devRef .tc Cert.ReferenceIdeal.main_v2456)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 23) rfl) :) e161 e166
  have e168 : @Eq ((⟨Cert.KernelIdeal.S32x131072, .f32⟩ : BufTy).Contents (Elt F)) (Φ₁ (Proc.devRef .tc Cert.KernelIdeal.main_v2442)) (Φ₂ (Proc.devRef .tc Cert.ReferenceIdeal.main_v2457)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 24) rfl) :) e158 e167
  have e169 : @Eq ((⟨Cert.KernelIdeal.S_, .f32⟩ : BufTy).Contents (Elt F)) (Φ₁ (Proc.devRef .tc Cert.KernelIdeal.main_cst_745)) (Φ₂ (Proc.devRef .tc Cert.ReferenceIdeal.main_cst_745)) := step0 (β := ((⟨Cert.KernelIdeal.S_, .f32⟩ : BufTy).Contents (Elt F))) (eq0 (at_ fa8 (i := 94) rfl) :) (eq0 (at_ fb3 (i := 25) rfl) :)
  have e170 : @Eq ((⟨Cert.KernelIdeal.S131072, .f32⟩ : BufTy).Contents (Elt F)) (Φ₁ (Proc.devRef .tc Cert.KernelIdeal.main_v2443)) (Φ₂ (Proc.devRef .tc Cert.ReferenceIdeal.main_v2458)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 26) rfl) :) e169
  have e171 : @Eq ((⟨Cert.KernelIdeal.S131072, .f32⟩ : BufTy).Contents (Elt F)) (Φ₁ (Proc.devRef .tc Cert.KernelIdeal.main_v2444)) (Φ₂ (Proc.devRef .tc Cert.ReferenceIdeal.main_v2459)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 27) rfl) :) e170 e33
  have e172 : @Eq ((⟨Cert.KernelIdeal.S1x131072, .f32⟩ : BufTy).Contents (Elt F)) (Φ₁ (Proc.devRef .tc Cert.KernelIdeal.main_v2445)) (Φ₂ (Proc.devRef .tc Cert.ReferenceIdeal.main_v2460)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 28) rfl) :) e171
  have e173 : @Eq ((⟨Cert.KernelIdeal.S32x131072, .f32⟩ : BufTy).Contents (Elt F)) (Φ₁ (Proc.devRef .tc Cert.KernelIdeal.main_v2446)) (Φ₂ (Proc.devRef .tc Cert.ReferenceIdeal.main_v2461)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 29) rfl) :) e172
  have e174 : @Eq ((⟨Cert.KernelIdeal.S32x131072, .f32⟩ : BufTy).Contents (Elt F)) (Φ₁ (Proc.devRef .tc Cert.KernelIdeal.main_v2447)) (Φ₂ (Proc.devRef .tc Cert.ReferenceIdeal.main_v2462)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 30) rfl) :) e128 e173
  have e175 : @Eq ((⟨Cert.KernelIdeal.S1x131072, .f32⟩ : BufTy).Contents (Elt F)) (Φ₁ (Proc.devRef .tc Cert.KernelIdeal.main_v2448)) (Φ₂ (Proc.devRef .tc Cert.ReferenceIdeal.main_v2463)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 31) rfl) :) e34
  have e176 : @Eq ((⟨Cert.KernelIdeal.S32x131072, .f32⟩ : BufTy).Contents (Elt F)) (Φ₁ (Proc.devRef .tc Cert.KernelIdeal.main_v2449)) (Φ₂ (Proc.devRef .tc Cert.ReferenceIdeal.main_v2464)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 32) rfl) :) e175
  have e177 : @Eq ((⟨Cert.KernelIdeal.S32x131072, .f32⟩ : BufTy).Contents (Elt F)) (Φ₁ (Proc.devRef .tc Cert.KernelIdeal.main_v2450)) (Φ₂ (Proc.devRef .tc Cert.ReferenceIdeal.main_v2465)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 33) rfl) :) e174 e176
  have e178 : @Eq ((⟨Cert.KernelIdeal.S32x131072, .f32⟩ : BufTy).Contents (Elt F)) (Φ₁ (Proc.devRef .tc Cert.KernelIdeal.main_v2451)) (Φ₂ (Proc.devRef .tc Cert.ReferenceIdeal.main_v2466)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 34) rfl) :) e168 e177
  have e179 : @Eq ((⟨Cert.KernelIdeal.S1x131072, .f32⟩ : BufTy).Contents (Elt F)) (Φ₁ (Proc.devRef .tc Cert.KernelIdeal.main_v2452)) (Φ₂ (Proc.devRef .tc Cert.ReferenceIdeal.main_v2467)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 35) rfl) :) e33
  have e180 : @Eq ((⟨Cert.KernelIdeal.S32x131072, .f32⟩ : BufTy).Contents (Elt F)) (Φ₁ (Proc.devRef .tc Cert.KernelIdeal.main_v2453)) (Φ₂ (Proc.devRef .tc Cert.ReferenceIdeal.main_v2468)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 36) rfl) :) e179
  have e181 : @Eq ((⟨Cert.KernelIdeal.S32x131072, .f32⟩ : BufTy).Contents (Elt F)) (Φ₁ (Proc.devRef .tc Cert.KernelIdeal.main_v2454)) (Φ₂ (Proc.devRef .tc Cert.ReferenceIdeal.main_v2469)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 37) rfl) :) e146 e180
  have e182 : @Eq ((⟨Cert.KernelIdeal.S1x131072, .f32⟩ : BufTy).Contents (Elt F)) (Φ₁ (Proc.devRef .tc Cert.KernelIdeal.main_v2455)) (Φ₂ (Proc.devRef .tc Cert.ReferenceIdeal.main_v2470)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 38) rfl) :) e34
  have e183 : @Eq ((⟨Cert.KernelIdeal.S32x131072, .f32⟩ : BufTy).Contents (Elt F)) (Φ₁ (Proc.devRef .tc Cert.KernelIdeal.main_v2456)) (Φ₂ (Proc.devRef .tc Cert.ReferenceIdeal.main_v2471)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 39) rfl) :) e182
  have e184 : @Eq ((⟨Cert.KernelIdeal.S32x131072, .f32⟩ : BufTy).Contents (Elt F)) (Φ₁ (Proc.devRef .tc Cert.KernelIdeal.main_v2457)) (Φ₂ (Proc.devRef .tc Cert.ReferenceIdeal.main_v2472)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 40) rfl) :) e181 e183
  have e185 : @Eq ((⟨Cert.KernelIdeal.S32x131072, .f32⟩ : BufTy).Contents (Elt F)) (Φ₁ (Proc.devRef .tc Cert.KernelIdeal.main_v2458)) (Φ₂ (Proc.devRef .tc Cert.ReferenceIdeal.main_v2473)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 41) rfl) :) e178 e184
  have e186 : @Eq ((⟨Cert.KernelIdeal.S131072x32, .f32⟩ : BufTy).Contents (Elt F)) (Φ₁ (Proc.devRef .tc Cert.KernelIdeal.main_v2459)) (Φ₂ (Proc.devRef .tc Cert.ReferenceIdeal.main_v2474)) := by rw [eq1 (at_ fa8 (i := 111) rfl), eq1 (at_ fb3 (i := 42) rfl), e185] <;> rfl
  exact e186

end Cert.Bridge

end
-- ==== Proof.RefOps7.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 56 of @main: 60 operations, writing buffers 3788 … 3847. -/
abbrev w56 : List (HloOp τ sig (Elt F)) :=
  [ StableHlo.unary main_v2575 main_v2576 (broadcastInDim S32x131072 ![0, 1] bcast_S1x131072_S32x131072_0_1 : (⟨S1x131072, .f32⟩ : BufTy).Contents (Elt F) → (⟨S32x131072, .f32⟩ : BufTy).Contents (Elt F)),
    StableHlo.binary main_v2572 main_v2576 main_v2577 (mulf : (⟨S32x131072, .f32⟩ : BufTy).Contents (Elt F) → (⟨S32x131072, .f32⟩ : BufTy).Contents (Elt F) → (⟨S32x131072, .f32⟩ : BufTy).Contents (Elt F)),
    StableHlo.unary main_v2500 main_v2578 (broadcastInDim S1x131072 ![1] bcast_S131072_S1x131072_1 : (⟨S131072, .f32⟩ : BufTy).Contents (Elt F) → (⟨S1x131072, .f32⟩ : BufTy).Contents (Elt F)),
    StableHlo.unary main_v2578 main_v2579 (broadcastInDim S32x131072 ![0, 1] bcast_S1x131072_S32x131072_0_1 : (⟨S1x131072, .f32⟩ : BufTy).Contents (Elt F) → (⟨S32x131072, .f32⟩ : BufTy).Contents (Elt F)),
    StableHlo.binary main_v2539 main_v2579 main_v2580 (mulf : (⟨S32x131072, .f32⟩ : BufTy).Contents (Elt F) → (⟨S32x131072, .f32⟩ : BufTy).Contents (Elt F) → (⟨S32x131072, .f32⟩ : BufTy).Contents (Elt F)),
    StableHlo.nullary main_cst_782 (constant S_ .f32 0x3F800000#32),
    StableHlo.unary main_cst_782 main_v2581 (broadcastInDim S131072 ![] bcast_S_S131072 : (⟨S_, .f32⟩ : BufTy).Contents (Elt F) → (⟨S131072, .f32⟩ : BufTy).Contents (Elt F)),
    StableHlo.binary main_v2581 main_v2501 main_v2582 (subf : (⟨S131072, .f32⟩ : BufTy).Contents (Elt F) → (⟨S131072, .f32⟩ : BufTy).Contents (Elt F) → (⟨S131072, .f32⟩ : BufTy).Contents (Elt F)),
    StableHlo.unary main_v2582 main_v2583 (broadcastInDim S1x131072 ![1] bcast_S131072_S1x131072_1 : (⟨S131072, .f32⟩ : BufTy).Contents (Elt F) → (⟨S1x131072, .f32⟩ : BufTy).Contents (Elt F)),
    StableHlo.unary main_v2583 main_v2584 (broadcastInDim S32x131072 ![0, 1] bcast_S1x131072_S32x131072_0_1 : (⟨S1x131072, .f32⟩ : BufTy).Contents (Elt F) → (⟨S32x131072, .f32⟩ : BufTy).Contents (Elt F)),
    StableHlo.binary main_v2580 main_v2584 main_v2585 (mulf : (⟨S32x131072, .f32⟩ : BufTy).Contents (Elt F) → (⟨S32x131072, .f32⟩ : BufTy).Contents (Elt F) → (⟨S32x131072, .f32⟩ : BufTy).Contents (Elt F)),
    StableHlo.binary main_v2577 main_v2585 main_v2586 (addf : (⟨S32x131072, .f32⟩ : BufTy).Contents (Elt F) → (⟨S32x131072, .f32⟩ : BufTy).Contents (Elt F) → (⟨S32x131072, .f32⟩ : BufTy).Contents (Elt F)),
    StableHlo.nullary main_cst_783 (constant S_ .f32 0x3F800000#32),
    StableHlo.unary main_cst_783 main_v2587 (broadcastInDim S131072 ![] bcast_S_S131072 : (⟨S_, .f32⟩ : BufTy).Contents (Elt F) → (⟨S131072, .f32⟩ : BufTy).Contents (Elt F)),
    StableHlo.binary main_v2587 main_v2500 main_v2588 (subf : (⟨S131072, .f32⟩ : BufTy).Contents (Elt F) → (⟨S131072, .f32⟩ : BufTy).Contents (Elt F) → (⟨S131072, .f32⟩ : BufTy).Contents (Elt F)),
    StableHlo.unary main_v2588 main_v2589 (broadcastInDim S1x131072 ![1] bcast_S131072_S1x131072_1 : (⟨S131072, .f32⟩ : BufTy).Contents (Elt F) → (⟨S1x131072, .f32⟩ : BufTy).Contents (Elt F)),
    StableHlo.unary main_v2589 main_v2590 (broadcastInDim S32x131072 ![0, 1] bcast_S1x131072_S32x131072_0_1 : (⟨S1x131072, .f32⟩ : BufTy).Contents (Elt F) → (⟨S32x131072, .f32⟩ : BufTy).Contents (Elt F)),
    StableHlo.binary main_v2553 main_v2590 main_v2591 (mulf : (⟨S32x131072, .f32⟩ : BufTy).Contents (Elt F) → (⟨S32x131072, .f32⟩ : BufTy).Contents (Elt F) → (⟨S32x131072, .f32⟩ : BufTy).Contents (Elt F)),
    StableHlo.unary main_v2501 main_v2592 (broadcastInDim S1x131072 ![1] bcast_S131072_S1x131072_1 : (⟨S131072, .f32⟩ : BufTy).Contents (Elt F) → (⟨S1x131072, .f32⟩ : BufTy).Contents (Elt F)),
    StableHlo.unary main_v2592 main_v2593 (broadcastInDim S32x131072 ![0, 1] bcast_S1x131072_S32x131072_0_1 : (⟨S1x131072, .f32⟩ : BufTy).Contents (Elt F) → (⟨S32x131072, .f32⟩ : BufTy).Contents (Elt F)),
    StableHlo.binary main_v2591 main_v2593 main_v2594 (mulf : (⟨S32x131072, .f32⟩ : BufTy).Contents (Elt F) → (⟨S32x131072, .f32⟩ : BufTy).Contents (Elt F) → (⟨S32x131072, .f32⟩ : BufTy).Contents (Elt F)),
    StableHlo.binary main_v2586 main_v2594 main_v2595 (addf : (⟨S32x131072, .f32⟩ : BufTy).Contents (Elt F) → (⟨S32x131072, .f32⟩ : BufTy).Contents (Elt F) → (⟨S32x131072, .f32⟩ : BufTy).Contents (Elt F)),
    StableHlo.unary main_v2500 main_v2596 (broadcastInDim S1x131072 ![1] bcast_S131072_S1x131072_1 : (⟨S131072, .f32⟩ : BufTy).Contents (Elt F) → (⟨S1x131072, .f32⟩ : BufTy).Contents (Elt F)),
    StableHlo.unary main_v2596 main_v2597 (broadcastInDim S32x131072 ![0, 1] bcast_S1x131072_S32x131072_0_1 : (⟨S1x131072, .f32⟩ : BufTy).Contents (Elt F) → (⟨S32x131072, .f32⟩ : BufTy).Contents (Elt F)),
    StableHlo.binary main_v2567 main_v2597 main_v2598 (mulf : (⟨S32x131072, .f32⟩ : BufTy).Contents (Elt F) → (⟨S32x131072, .f32⟩ : BufTy).Contents (Elt F) → (⟨S32x131072, .f32⟩ : BufTy).Contents (Elt F)),
    StableHlo.unary main_v2501 main_v2599 (broadcastInDim S1x131072 ![1] bcast_S131072_S1x131072_1 : (⟨S131072, .f32⟩ : BufTy).Contents (Elt F) → (⟨S1x131072, .f32⟩ : BufTy).Contents (Elt F)),
    StableHlo.unary main_v2599 main_v2600 (broadcastInDim S32x131072 ![0, 1] bcast_S1x131072_S32x131072_0_1 : (⟨S1x131072, .f32⟩ : BufTy).Contents (Elt F) → (⟨S32x131072, .f32⟩ : BufTy).Contents (Elt F)),
    StableHlo.binary main_v2598 main_v2600 main_v2601 (mulf : (⟨S32x131072, .f32⟩ : BufTy).Contents (Elt F) → (⟨S32x131072, .f32⟩ : BufTy).Contents (Elt F) → (⟨S32x131072, .f32⟩ : BufTy).Contents (Elt F)),
    StableHlo.binary main_v2595 main_v2601 main_v2602 (addf : (⟨S32x131072, .f32⟩ : BufTy).Contents (Elt F) → (⟨S32x131072, .f32⟩ : BufTy).Contents (Elt F) → (⟨S32x131072, .f32⟩ : BufTy).Contents (Elt F)),
    StableHlo.unary main_v2602 main_v2603 ((transpose S131072x32 [1, 0] · transposes_S32x131072_S131072x32_1_0) : (⟨S32x131072, .f32⟩ : BufTy).Contents (Elt F) → (⟨S131072x32, .f32⟩ : BufTy).Contents (Elt F)),
    StableHlo.binary main_v2474 main_v2603 main_v2604 (mulf : (⟨S131072x32, .f32⟩ : BufTy).Contents (Elt F) → (⟨S131072x32, .f32⟩ : BufTy).Contents (Elt F) → (⟨S131072x32, .f32⟩ : BufTy).Contents (Elt F)),
    StableHlo.nullary main_c_784 (constantI S_ 32 0#32),
    StableHlo.unary main_c_784 main_v2605 (broadcastInDim S2 ![] bcast_S_S2 : (⟨S_, .i32⟩ : BufTy).Contents (Elt F) → (⟨S2, .i32⟩ : BufTy).Contents (Elt F)),
    StableHlo.binary main_c_19 main_v2605 main_v2606 (cmpi .slt : (⟨S2, .i32⟩ : BufTy).Contents (Elt F) → (⟨S2, .i32⟩ : BufTy).Contents (Elt F) → (⟨S2, .i1⟩ : BufTy).Contents (Elt F)),
    StableHlo.nullary main_c_785 (constantI S_ 32 4#32),
    StableHlo.unary main_c_785 main_v2607 (broadcastInDim S2 ![] bcast_S_S2 : (⟨S_, .i32⟩ : BufTy).Contents (Elt F) → (⟨S2, .i32⟩ : BufTy).Contents (Elt F)),
    StableHlo.binary main_c_19 main_v2607 main_v2608 (addi : (⟨S2, .i32⟩ : BufTy).Contents (Elt F) → (⟨S2, .i32⟩ : BufTy).Contents (Elt F) → (⟨S2, .i32⟩ : BufTy).Contents (Elt F)),
    StableHlo.ternary main_v2606 main_v2608 main_c_19 main_v2609 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2609 main_v2610 (broadcastInDim S2x1 ![0] bcast_S2_S2x1_0 : (⟨S2, .i32⟩ : BufTy).Contents (Elt F) → (⟨S2x1, .i32⟩ : BufTy).Contents (Elt F)),
    StableHlo.binary main_v8 main_v2610 main_v2611 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2611 main_v2612 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2612 main_v2613 rfl shapeCasts_S131072x1_S131072,
    StableHlo.nullary main_cst_786 (constant S_ .f32 0x3F800000#32),
    StableHlo.unary main_cst_786 main_v2614 (broadcastInDim S131072 ![] bcast_S_S131072 : (⟨S_, .f32⟩ : BufTy).Contents (Elt F) → (⟨S131072, .f32⟩ : BufTy).Contents (Elt F)),
    StableHlo.binary main_v2613 main_v2614 main_v2615 (addf : (⟨S131072, .f32⟩ : BufTy).Contents (Elt F) → (⟨S131072, .f32⟩ : BufTy).Contents (Elt F) → (⟨S131072, .f32⟩ : BufTy).Contents (Elt F)),
    StableHlo.nullary main_cst_787 (constant S_ .f32 0x3F000000#32),
    StableHlo.unary main_cst_787 main_v2616 (broadcastInDim S131072 ![] bcast_S_S131072 : (⟨S_, .f32⟩ : BufTy).Contents (Elt F) → (⟨S131072, .f32⟩ : BufTy).Contents (Elt F)),
    StableHlo.binary main_v2615 main_v2616 main_v2617 (mulf : (⟨S131072, .f32⟩ : BufTy).Contents (Elt F) → (⟨S131072, .f32⟩ : BufTy).Contents (Elt F) → (⟨S131072, .f32⟩ : BufTy).Contents (Elt F)),
    StableHlo.nullary main_cst_788 (constant S_ .f32 0x43FF8000#32),
    StableHlo.unary main_cst_788 main_v2618 (broadcastInDim S131072 ![] bcast_S_S131072 : (⟨S_, .f32⟩ : BufTy).Contents (Elt F) → (⟨S131072, .f32⟩ : BufTy).Contents (Elt F)),
    StableHlo.binary main_v2617 main_v2618 main_v2619 (mulf : (⟨S131072, .f32⟩ : BufTy).Contents (Elt F) → (⟨S131072, .f32⟩ : BufTy).Contents (Elt F) → (⟨S131072, .f32⟩ : BufTy).Contents (Elt F)),
    StableHlo.unary main_v2611 main_v2620 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2620 main_v2621 rfl shapeCasts_S131072x1_S131072,
    StableHlo.nullary main_cst_789 (constant S_ .f32 0x3F800000#32),
    StableHlo.unary main_cst_789 main_v2622 (broadcastInDim S131072 ![] bcast_S_S131072 : (⟨S_, .f32⟩ : BufTy).Contents (Elt F) → (⟨S131072, .f32⟩ : BufTy).Contents (Elt F)),
    StableHlo.binary main_v2621 main_v2622 main_v2623 (addf : (⟨S131072, .f32⟩ : BufTy).Contents (Elt F) → (⟨S131072, .f32⟩ : BufTy).Contents (Elt F) → (⟨S131072, .f32⟩ : BufTy).Contents (Elt F)),
    StableHlo.nullary main_cst_790 (constant S_ .f32 0x3F000000#32),
    StableHlo.unary main_cst_790 main_v2624 (broadcastInDim S131072 ![] bcast_S_S131072 : (⟨S_, .f32⟩ : BufTy).Contents (Elt F) → (⟨S131072, .f32⟩ : BufTy).Contents (Elt F)),
    StableHlo.binary main_v2623 main_v2624 main_v2625 (mulf : (⟨S131072, .f32⟩ : BufTy).Contents (Elt F) → (⟨S131072, .f32⟩ : BufTy).Contents (Elt F) → (⟨S131072, .f32⟩ : BufTy).Contents (Elt F)),
    StableHlo.nullary main_cst_791 (constant S_ .f32 0x43150000#32) ]
theorem w56_eq (c : Dev nD) : main_part56 (F := F) c = seq w56 := rfl
theorem w56_sub : (w56 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub ..⟩
theorem w56_fresh : (w56 : List (HloOp τ sig (Elt F))).Forall fun op => op.fresh = ∅ := by
  simp only [List.Forall]; repeat' constructor
set_option maxHeartbeats 4000000 in
theorem w56_chain : Chain 3788 (w56 : List (HloOp τ sig (Elt F))) :=
  Chain.cons (stepAt_unary 3788 _ _ _ rfl (by decide)) <|
  Chain.cons (stepAt_binary 3789 _ _ _ _ rfl (by decide) (by decide)) <|
  Chain.cons (stepAt_unary 3790 _ _ _ rfl (by decide)) <|
  Chain.cons (stepAt_unary 3791 _ _ _ rfl (by decide)) <|
  Chain.cons (stepAt_binary 3792 _ _ _ _ rfl (by decide) (by decide)) <|
  Chain.cons (stepAt_nullary 3793 _ _ rfl) <|
  Chain.cons (stepAt_unary 3794 _ _ _ rfl (by decide)) <|
  Chain.cons (stepAt_binary 3795 _ _ _ _ rfl (by decide) (by decide)) <|
  Chain.cons (stepAt_unary 3796 _ _ _ rfl (by decide)) <|
  Chain.cons (stepAt_unary 3797 _ _ _ rfl (by decide)) <|
  Chain.cons (stepAt_binary 3798 _ _ _ _ rfl (by decide) (by decide)) <|
  Chain.cons (stepAt_binary 3799 _ _ _ _ rfl (by decide) (by decide)) <|
  Chain.cons (stepAt_nullary 3800 _ _ rfl) <|
  Chain.cons (stepAt_unary 3801 _ _ _ rfl (by decide)) <|
  Chain.cons (stepAt_binary 3802 _ _ _ _ rfl (by decide) (by decide)) <|
  Chain.cons (stepAt_unary 3803 _ _ _ rfl (by decide)) <|
  Chain.cons (stepAt_unary 3804 _ _ _ rfl (by decide)) <|
  Chain.cons (stepAt_binary 3805 _ _ _ _ rfl (by decide) (by decide)) <|
  Chain.cons (stepAt_unary 3806 _ _ _ rfl (by decide)) <|
  Chain.cons (stepAt_unary 3807 _ _ _ rfl (by decide)) <|
  Chain.cons (stepAt_binary 3808 _ _ _ _ rfl (by decide) (by decide)) <|
  Chain.cons (stepAt_binary 3809 _ _ _ _ rfl (by decide) (by decide)) <|
  Chain.cons (stepAt_unary 3810 _ _ _ rfl (by decide)) <|
  Chain.cons (stepAt_unary 3811 _ _ _ rfl (by decide)) <|
  Chain.cons (stepAt_binary 3812 _ _ _ _ rfl (by decide) (by decide)) <|
  Chain.cons (stepAt_unary 3813 _ _ _ rfl (by decide)) <|
  Chain.cons (stepAt_unary 3814 _ _ _ rfl (by decide)) <|
  Chain.cons (stepAt_binary 3815 _ _ _ _ rfl (by decide) (by decide)) <|
  Chain.cons (stepAt_binary 3816 _ _ _ _ rfl (by decide) (by decide)) <|
  Chain.cons (stepAt_unary 3817 _ _ _ rfl (by decide)) <|
  Chain.cons (stepAt_binary 3818 _ _ _ _ rfl (by decide) (by decide)) <|
  Chain.cons (stepAt_nullary 3819 _ _ rfl) <|
  Chain.cons (stepAt_unary 3820 _ _ _ rfl (by decide)) <|
  Chain.cons (stepAt_binary 3821 _ _ _ _ rfl (by decide) (by decide)) <|
  Chain.cons (stepAt_nullary 3822 _ _ rfl) <|
  Chain.cons (stepAt_unary 3823 _ _ _ rfl (by decide)) <|
  Chain.cons (stepAt_binary 3824 _ _ _ _ rfl (by decide) (by decide)) <|
  Chain.cons (stepAt_ternary 3825 _ _ _ _ _ rfl (by decide) (by decide) (by decide)) <|
  Chain.cons (stepAt_unary 3826 _ _ _ rfl (by decide)) <|
  Chain.cons (stepAt_binary 3827 _ _ _ _ rfl (by decide) (by decide)) <|
  Chain.cons (stepAt_unary 3828 _ _ _ rfl (by decide)) <|
  Chain.cons (stepAt_reshape 3829 _ _ _ _ rfl (by decide)) <|
  Chain.cons (stepAt_nullary 3830 _ _ rfl) <|
  Chain.cons (stepAt_unary 3831 _ _ _ rfl (by decide)) <|
  Chain.cons (stepAt_binary 3832 _ _ _ _ rfl (by decide) (by decide)) <|
  Chain.cons (stepAt_nullary 3833 _ _ rfl) <|
  Chain.cons (stepAt_unary 3834 _ _ _ rfl (by decide)) <|
  Chain.cons (stepAt_binary 3835 _ _ _ _ rfl (by decide) (by decide)) <|
  Chain.cons (stepAt_nullary 3836 _ _ rfl) <|
  Chain.cons (stepAt_unary 3837 _ _ _ rfl (by decide)) <|
  Chain.cons (stepAt_binary 3838 _ _ _ _ rfl (by decide) (by decide)) <|
  Chain.cons (stepAt_unary 3839 _ _ _ rfl (by decide)) <|
  Chain.cons (stepAt_reshape 3840 _ _ _ _ rfl (by decide)) <|
  Chain.cons (stepAt_nullary 3841 _ _ rfl) <|
  Chain.cons (stepAt_unary 3842 _ _ _ rfl (by decide)) <|
  Chain.cons (stepAt_binary 3843 _ _ _ _ rfl (by decide) (by decide)) <|
  Chain.cons (stepAt_nullary 3844 _ _ rfl) <|
  Chain.cons (stepAt_unary 3845 _ _ _ rfl (by decide)) <|
  Chain.cons (stepAt_binary 3846 _ _ _ _ rfl (by decide) (by decide)) <|
  Chain.cons (stepAt_nullary 3847 _ _ rfl) <|
  Chain.nil
theorem w56_length : (w56 : List (HloOp τ sig (Elt F))).length = 60 := rfl

/-- Window 57 of @main: 80 operations, writing buffers 3848 … 3927. -/
abbrev w57 : List (HloOp τ sig (Elt F)) :=
  [ StableHlo.unary main_cst_791 main_v2626 (broadcastInDim S131072 ![] bcast_S_S131072 : (⟨S_, .f32⟩ : BufTy).Contents (Elt F) → (⟨S131072, .f32⟩ : BufTy).Contents (Elt F)),
    StableHlo.binary main_v2625 main_v2626 main_v2627 (mulf : (⟨S131072, .f32⟩ : BufTy).Contents (Elt F) → (⟨S131072, .f32⟩ : BufTy).Contents (Elt F) → (⟨S131072, .f32⟩ : BufTy).Contents (Elt F)),
    StableHlo.unary main_v2619 main_v2628 (Host.floor : (⟨S131072, .f32⟩ : BufTy).Contents (Elt F) → (⟨S131072, .f32⟩ : BufTy).Contents (Elt F)),
    StableHlo.unary main_v2627 main_v2629 (Host.floor : (⟨S131072, .f32⟩ : BufTy).Contents (Elt F) → (⟨S131072, .f32⟩ : BufTy).Contents (Elt F)),
    StableHlo.binary main_v2619 main_v2628 main_v2630 (subf : (⟨S131072, .f32⟩ : BufTy).Contents (Elt F) → (⟨S131072, .f32⟩ : BufTy).Contents (Elt F) → (⟨S131072, .f32⟩ : BufTy).Contents (Elt F)),
    StableHlo.binary main_v2627 main_v2629 main_v2631 (subf : (⟨S131072, .f32⟩ : BufTy).Contents (Elt F) → (⟨S131072, .f32⟩ : BufTy).Contents (Elt F) → (⟨S131072, .f32⟩ : BufTy).Contents (Elt F)),
    StableHlo.unary main_v2628 main_v2632 (fptosi 32 : (⟨S131072, .f32⟩ : BufTy).Contents (Elt F) → (⟨S131072, .i32⟩ : BufTy).Contents (Elt F)),
    StableHlo.nullary main_c_792 (constantI S_ 32 0#32),
    StableHlo.nullary main_c_793 (constantI S_ 32 511#32),
    StableHlo.TRef.unary (.of main_c_792) main_call80.v0 id,
    StableHlo.TRef.unary main_call80.v0 main_call80.v1 (broadcastInDim S131072 ![] bcast_S_S131072),
    StableHlo.TRef.binary main_call80.v1 (.of main_v2632) main_call80.v2 maxsi,
    StableHlo.TRef.unary (.of main_c_793) main_call80.v3 id,
    StableHlo.TRef.unary main_call80.v3 main_call80.v4 (broadcastInDim S131072 ![] bcast_S_S131072),
    StableHlo.TRef.binary main_call80.v4 main_call80.v2 main_call80.v5 minsi,
    StableHlo.nullary main_c_794 (constantI S_ 32 1#32),
    StableHlo.unary main_c_794 main_v2634 (broadcastInDim S131072 ![] bcast_S_S131072 : (⟨S_, .i32⟩ : BufTy).Contents (Elt F) → (⟨S131072, .i32⟩ : BufTy).Contents (Elt F)),
    StableHlo.binary main_v2633 main_v2634 main_v2635 (addi : (⟨S131072, .i32⟩ : BufTy).Contents (Elt F) → (⟨S131072, .i32⟩ : BufTy).Contents (Elt F) → (⟨S131072, .i32⟩ : BufTy).Contents (Elt F)),
    StableHlo.nullary main_c_795 (constantI S_ 32 0#32),
    StableHlo.nullary main_c_796 (constantI S_ 32 511#32),
    StableHlo.TRef.unary (.of main_c_795) main_call81.v0 id,
    StableHlo.TRef.unary main_call81.v0 main_call81.v1 (broadcastInDim S131072 ![] bcast_S_S131072),
    StableHlo.TRef.binary main_call81.v1 (.of main_v2635) main_call81.v2 maxsi,
    StableHlo.TRef.unary (.of main_c_796) main_call81.v3 id,
    StableHlo.TRef.unary main_call81.v3 main_call81.v4 (broadcastInDim S131072 ![] bcast_S_S131072),
    StableHlo.TRef.binary main_call81.v4 main_call81.v2 main_call81.v5 minsi,
    StableHlo.unary main_v2629 main_v2637 (fptosi 32 : (⟨S131072, .f32⟩ : BufTy).Contents (Elt F) → (⟨S131072, .i32⟩ : BufTy).Contents (Elt F)),
    StableHlo.nullary main_c_797 (constantI S_ 32 0#32),
    StableHlo.nullary main_c_798 (constantI S_ 32 149#32),
    StableHlo.TRef.unary (.of main_c_797) main_call82.v0 id,
    StableHlo.TRef.unary main_call82.v0 main_call82.v1 (broadcastInDim S131072 ![] bcast_S_S131072),
    StableHlo.TRef.binary main_call82.v1 (.of main_v2637) main_call82.v2 maxsi,
    StableHlo.TRef.unary (.of main_c_798) main_call82.v3 id,
    StableHlo.TRef.unary main_call82.v3 main_call82.v4 (broadcastInDim S131072 ![] bcast_S_S131072),
    StableHlo.TRef.binary main_call82.v4 main_call82.v2 main_call82.v5 minsi,
    StableHlo.nullary main_c_799 (constantI S_ 32 1#32),
    StableHlo.unary main_c_799 main_v2639 (broadcastInDim S131072 ![] bcast_S_S131072 : (⟨S_, .i32⟩ : BufTy).Contents (Elt F) → (⟨S131072, .i32⟩ : BufTy).Contents (Elt F)),
    StableHlo.binary main_v2638 main_v2639 main_v2640 (addi : (⟨S131072, .i32⟩ : BufTy).Contents (Elt F) → (⟨S131072, .i32⟩ : BufTy).Contents (Elt F) → (⟨S131072, .i32⟩ : BufTy).Contents (Elt F)),
    StableHlo.nullary main_c_800 (constantI S_ 32 0#32),
    StableHlo.nullary main_c_801 (constantI S_ 32 149#32),
    StableHlo.TRef.unary (.of main_c_800) main_call83.v0 id,
    StableHlo.TRef.unary main_call83.v0 main_call83.v1 (broadcastInDim S131072 ![] bcast_S_S131072),
    StableHlo.TRef.binary main_call83.v1 (.of main_v2640) main_call83.v2 maxsi,
    StableHlo.TRef.unary (.of main_c_801) main_call83.v3 id,
    StableHlo.TRef.unary main_call83.v3 main_call83.v4 (broadcastInDim S131072 ![] bcast_S_S131072),
    StableHlo.TRef.binary main_call83.v4 main_call83.v2 main_call83.v5 minsi,
    StableHlo.nullary main_c_802 (constantI S_ 32 0#32),
    StableHlo.unary main_c_802 main_v2642 (broadcastInDim S131072 ![] bcast_S_S131072 : (⟨S_, .i32⟩ : BufTy).Contents (Elt F) → (⟨S131072, .i32⟩ : BufTy).Contents (Elt F)),
    StableHlo.binary main_v2638 main_v2642 main_v2643 (cmpi .slt : (⟨S131072, .i32⟩ : BufTy).Contents (Elt F) → (⟨S131072, .i32⟩ : BufTy).Contents (Elt F) → (⟨S131072, .i1⟩ : BufTy).Contents (Elt F)),
    StableHlo.nullary main_c_803 (constantI S_ 32 150#32),
    StableHlo.unary main_c_803 main_v2644 (broadcastInDim S131072 ![] bcast_S_S131072 : (⟨S_, .i32⟩ : BufTy).Contents (Elt F) → (⟨S131072, .i32⟩ : BufTy).Contents (Elt F)),
    StableHlo.binary main_v2638 main_v2644 main_v2645 (addi : (⟨S131072, .i32⟩ : BufTy).Contents (Elt F) → (⟨S131072, .i32⟩ : BufTy).Contents (Elt F) → (⟨S131072, .i32⟩ : BufTy).Contents (Elt F)),
    StableHlo.ternary main_v2643 main_v2645 main_v2638 main_v2646 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_804 (constantI S_ 32 0#32),
    StableHlo.unary main_c_804 main_v2647 (broadcastInDim S131072 ![] bcast_S_S131072 : (⟨S_, .i32⟩ : BufTy).Contents (Elt F) → (⟨S131072, .i32⟩ : BufTy).Contents (Elt F)),
    StableHlo.binary main_v2633 main_v2647 main_v2648 (cmpi .slt : (⟨S131072, .i32⟩ : BufTy).Contents (Elt F) → (⟨S131072, .i32⟩ : BufTy).Contents (Elt F) → (⟨S131072, .i1⟩ : BufTy).Contents (Elt F)),
    StableHlo.nullary main_c_805 (constantI S_ 32 512#32),
    StableHlo.unary main_c_805 main_v2649 (broadcastInDim S131072 ![] bcast_S_S131072 : (⟨S_, .i32⟩ : BufTy).Contents (Elt F) → (⟨S131072, .i32⟩ : BufTy).Contents (Elt F)),
    StableHlo.binary main_v2633 main_v2649 main_v2650 (addi : (⟨S131072, .i32⟩ : BufTy).Contents (Elt F) → (⟨S131072, .i32⟩ : BufTy).Contents (Elt F) → (⟨S131072, .i32⟩ : BufTy).Contents (Elt F)),
    StableHlo.ternary main_v2648 main_v2650 main_v2633 main_v2651 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2646 main_v2652 (broadcastInDim S131072x1 ![0] bcast_S131072_S131072x1_0 : (⟨S131072, .i32⟩ : BufTy).Contents (Elt F) → (⟨S131072x1, .i32⟩ : BufTy).Contents (Elt F)),
    StableHlo.unary main_v2651 main_v2653 (broadcastInDim S131072x1 ![0] bcast_S131072_S131072x1_0 : (⟨S131072, .i32⟩ : BufTy).Contents (Elt F) → (⟨S131072x1, .i32⟩ : BufTy).Contents (Elt F)),
    StableHlo.binary main_v2652 main_v2653 main_v2654 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg22 main_v2654 main_v2655 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_806 (constantI S_ 32 0#32),
    StableHlo.unary main_c_806 main_v2656 (broadcastInDim S131072 ![] bcast_S_S131072 : (⟨S_, .i32⟩ : BufTy).Contents (Elt F) → (⟨S131072, .i32⟩ : BufTy).Contents (Elt F)),
    StableHlo.binary main_v2638 main_v2656 main_v2657 (cmpi .slt : (⟨S131072, .i32⟩ : BufTy).Contents (Elt F) → (⟨S131072, .i32⟩ : BufTy).Contents (Elt F) → (⟨S131072, .i1⟩ : BufTy).Contents (Elt F)),
    StableHlo.nullary main_c_807 (constantI S_ 32 150#32),
    StableHlo.unary main_c_807 main_v2658 (broadcastInDim S131072 ![] bcast_S_S131072 : (⟨S_, .i32⟩ : BufTy).Contents (Elt F) → (⟨S131072, .i32⟩ : BufTy).Contents (Elt F)),
    StableHlo.binary main_v2638 main_v2658 main_v2659 (addi : (⟨S131072, .i32⟩ : BufTy).Contents (Elt F) → (⟨S131072, .i32⟩ : BufTy).Contents (Elt F) → (⟨S131072, .i32⟩ : BufTy).Contents (Elt F)),
    StableHlo.ternary main_v2657 main_v2659 main_v2638 main_v2660 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_808 (constantI S_ 32 0#32),
    StableHlo.unary main_c_808 main_v2661 (broadcastInDim S131072 ![] bcast_S_S131072 : (⟨S_, .i32⟩ : BufTy).Contents (Elt F) → (⟨S131072, .i32⟩ : BufTy).Contents (Elt F)),
    StableHlo.binary main_v2636 main_v2661 main_v2662 (cmpi .slt : (⟨S131072, .i32⟩ : BufTy).Contents (Elt F) → (⟨S131072, .i32⟩ : BufTy).Contents (Elt F) → (⟨S131072, .i1⟩ : BufTy).Contents (Elt F)),
    StableHlo.nullary main_c_809 (constantI S_ 32 512#32),
    StableHlo.unary main_c_809 main_v2663 (broadcastInDim S131072 ![] bcast_S_S131072 : (⟨S_, .i32⟩ : BufTy).Contents (Elt F) → (⟨S131072, .i32⟩ : BufTy).Contents (Elt F)),
    StableHlo.binary main_v2636 main_v2663 main_v2664 (addi : (⟨S131072, .i32⟩ : BufTy).Contents (Elt F) → (⟨S131072, .i32⟩ : BufTy).Contents (Elt F) → (⟨S131072, .i32⟩ : BufTy).Contents (Elt F)),
    StableHlo.ternary main_v2662 main_v2664 main_v2636 main_v2665 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2660 main_v2666 (broadcastInDim S131072x1 ![0] bcast_S131072_S131072x1_0 : (⟨S131072, .i32⟩ : BufTy).Contents (Elt F) → (⟨S131072x1, .i32⟩ : BufTy).Contents (Elt F)),
    StableHlo.unary main_v2665 main_v2667 (broadcastInDim S131072x1 ![0] bcast_S131072_S131072x1_0 : (⟨S131072, .i32⟩ : BufTy).Contents (Elt F) → (⟨S131072x1, .i32⟩ : BufTy).Contents (Elt F)) ]
theorem w57_eq (c : Dev nD) : main_part57 (F := F) c = seq w57 := rfl
theorem w57_sub : (w57 : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem w57_fresh : (w57 : List (HloOp τ sig (Elt F))).Forall fun op => op.fresh = ∅ := by
  simp only [List.Forall]; repeat' constructor
set_option maxHeartbeats 4000000 in
theorem w57_chain : Chain 3848 (w57 : List (HloOp τ sig (Elt F))) :=
  Chain.cons (stepAt_unary 3848 _ _ _ rfl (by decide)) <|
  Chain.cons (stepAt_binary 3849 _ _ _ _ rfl (by decide) (by decide)) <|
  Chain.cons (stepAt_unary 3850 _ _ _ rfl (by decide)) <|
  Chain.cons (stepAt_unary 3851 _ _ _ rfl (by decide)) <|
  Chain.cons (stepAt_binary 3852 _ _ _ _ rfl (by decide) (by decide)) <|
  Chain.cons (stepAt_binary 3853 _ _ _ _ rfl (by decide) (by decide)) <|
  Chain.cons (stepAt_unary 3854 _ _ _ rfl (by decide)) <|
  Chain.cons (stepAt_nullary 3855 _ _ rfl) <|
  Chain.cons (stepAt_nullary 3856 _ _ rfl) <|
  Chain.cons (stepAt_unary 3857 _ _ _ rfl (by decide)) <|
  Chain.cons (stepAt_unary 3858 _ _ _ rfl (by decide)) <|
  Chain.cons (stepAt_binary 3859 _ _ _ _ rfl (by decide) (by decide)) <|
  Chain.cons (stepAt_unary 3860 _ _ _ rfl (by decide)) <|
  Chain.cons (stepAt_unary 3861 _ _ _ rfl (by decide)) <|
  Chain.cons (stepAt_binary 3862 _ _ _ _ rfl (by decide) (by decide)) <|
  Chain.cons (stepAt_nullary 3863 _ _ rfl) <|
  Chain.cons (stepAt_unary 3864 _ _ _ rfl (by decide)) <|
  Chain.cons (stepAt_binary 3865 _ _ _ _ rfl (by decide) (by decide)) <|
  Chain.cons (stepAt_nullary 3866 _ _ rfl) <|
  Chain.cons (stepAt_nullary 3867 _ _ rfl) <|
  Chain.cons (stepAt_unary 3868 _ _ _ rfl (by decide)) <|
  Chain.cons (stepAt_unary 3869 _ _ _ rfl (by decide)) <|
  Chain.cons (stepAt_binary 3870 _ _ _ _ rfl (by decide) (by decide)) <|
  Chain.cons (stepAt_unary 3871 _ _ _ rfl (by decide)) <|
  Chain.cons (stepAt_unary 3872 _ _ _ rfl (by decide)) <|
  Chain.cons (stepAt_binary 3873 _ _ _ _ rfl (by decide) (by decide)) <|
  Chain.cons (stepAt_unary 3874 _ _ _ rfl (by decide)) <|
  Chain.cons (stepAt_nullary 3875 _ _ rfl) <|
  Chain.cons (stepAt_nullary 3876 _ _ rfl) <|
  Chain.cons (stepAt_unary 3877 _ _ _ rfl (by decide)) <|
  Chain.cons (stepAt_unary 3878 _ _ _ rfl (by decide)) <|
  Chain.cons (stepAt_binary 3879 _ _ _ _ rfl (by decide) (by decide)) <|
  Chain.cons (stepAt_unary 3880 _ _ _ rfl (by decide)) <|
  Chain.cons (stepAt_unary 3881 _ _ _ rfl (by decide)) <|
  Chain.cons (stepAt_binary 3882 _ _ _ _ rfl (by decide) (by decide)) <|
  Chain.cons (stepAt_nullary 3883 _ _ rfl) <|
  Chain.cons (stepAt_unary 3884 _ _ _ rfl (by decide)) <|
  Chain.cons (stepAt_binary 3885 _ _ _ _ rfl (by decide) (by decide)) <|
  Chain.cons (stepAt_nullary 3886 _ _ rfl) <|
  Chain.cons (stepAt_nullary 3887 _ _ rfl) <|
  Chain.cons (stepAt_unary 3888 _ _ _ rfl (by decide)) <|
  Chain.cons (stepAt_unary 3889 _ _ _ rfl (by decide)) <|
  Chain.cons (stepAt_binary 3890 _ _ _ _ rfl (by decide) (by decide)) <|
  Chain.cons (stepAt_unary 3891 _ _ _ rfl (by decide)) <|
  Chain.cons (stepAt_unary 3892 _ _ _ rfl (by decide)) <|
  Chain.cons (stepAt_binary 3893 _ _ _ _ rfl (by decide) (by decide)) <|
  Chain.cons (stepAt_nullary 3894 _ _ rfl) <|
  Chain.cons (stepAt_unary 3895 _ _ _ rfl (by decide)) <|
  Chain.cons (stepAt_binary 3896 _ _ _ _ rfl (by decide) (by decide)) <|
  Chain.cons (stepAt_nullary 3897 _ _ rfl) <|
  Chain.cons (stepAt_unary 3898 _ _ _ rfl (by decide)) <|
  Chain.cons (stepAt_binary 3899 _ _ _ _ rfl (by decide) (by decide)) <|
  Chain.cons (stepAt_ternary 3900 _ _ _ _ _ rfl (by decide) (by decide) (by decide)) <|
  Chain.cons (stepAt_nullary 3901 _ _ rfl) <|
  Chain.cons (stepAt_unary 3902 _ _ _ rfl (by decide)) <|
  Chain.cons (stepAt_binary 3903 _ _ _ _ rfl (by decide) (by decide)) <|
  Chain.cons (stepAt_nullary 3904 _ _ rfl) <|
  Chain.cons (stepAt_unary 3905 _ _ _ rfl (by decide)) <|
  Chain.cons (stepAt_binary 3906 _ _ _ _ rfl (by decide) (by decide)) <|
  Chain.cons (stepAt_ternary 3907 _ _ _ _ _ rfl (by decide) (by decide) (by decide)) <|
  Chain.cons (stepAt_unary 3908 _ _ _ rfl (by decide)) <|
  Chain.cons (stepAt_unary 3909 _ _ _ rfl (by decide)) <|
  Chain.cons (stepAt_binary 3910 _ _ _ _ rfl (by decide) (by decide)) <|
  Chain.cons (stepAt_binary 3911 _ _ _ _ rfl (by decide) (by decide)) <|
  Chain.cons (stepAt_nullary 3912 _ _ rfl) <|
  Chain.cons (stepAt_unary 3913 _ _ _ rfl (by decide)) <|
  Chain.cons (stepAt_binary 3914 _ _ _ _ rfl (by decide) (by decide)) <|
  Chain.cons (stepAt_nullary 3915 _ _ rfl) <|
  Chain.cons (stepAt_unary 3916 _ _ _ rfl (by decide)) <|
  Chain.cons (stepAt_binary 3917 _ _ _ _ rfl (by decide) (by decide)) <|
  Chain.cons (stepAt_ternary 3918 _ _ _ _ _ rfl (by decide) (by decide) (by decide)) <|
  Chain.cons (stepAt_nullary 3919 _ _ rfl) <|
  Chain.cons (stepAt_unary 3920 _ _ _ rfl (by decide)) <|
  Chain.cons (stepAt_binary 3921 _ _ _ _ rfl (by decide) (by decide)) <|
  Chain.cons (stepAt_nullary 3922 _ _ rfl) <|
  Chain.cons (stepAt_unary 3923 _ _ _ rfl (by decide)) <|
  Chain.cons (stepAt_binary 3924 _ _ _ _ rfl (by decide) (by decide)) <|
  Chain.cons (stepAt_ternary 3925 _ _ _ _ _ rfl (by decide) (by decide) (by decide)) <|
  Chain.cons (stepAt_unary 3926 _ _ _ rfl (by decide)) <|
  Chain.cons (stepAt_unary 3927 _ _ _ rfl (by decide)) <|
  Chain.nil
theorem w57_length : (w57 : List (HloOp τ sig (Elt F))).length = 80 := rfl

/-- Window 58 of @main: 60 operations, writing buffers 3928 … 3987. -/
abbrev w58 : List (HloOp τ sig (Elt F)) :=
  [ StableHlo.binary main_v2666 main_v2667 main_v2668 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg22 main_v2668 main_v2669 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_810 (constantI S_ 32 0#32),
    StableHlo.unary main_c_810 main_v2670 (broadcastInDim S131072 ![] bcast_S_S131072 : (⟨S_, .i32⟩ : BufTy).Contents (Elt F) → (⟨S131072, .i32⟩ : BufTy).Contents (Elt F)),
    StableHlo.binary main_v2641 main_v2670 main_v2671 (cmpi .slt : (⟨S131072, .i32⟩ : BufTy).Contents (Elt F) → (⟨S131072, .i32⟩ : BufTy).Contents (Elt F) → (⟨S131072, .i1⟩ : BufTy).Contents (Elt F)),
    StableHlo.nullary main_c_811 (constantI S_ 32 150#32),
    StableHlo.unary main_c_811 main_v2672 (broadcastInDim S131072 ![] bcast_S_S131072 : (⟨S_, .i32⟩ : BufTy).Contents (Elt F) → (⟨S131072, .i32⟩ : BufTy).Contents (Elt F)),
    StableHlo.binary main_v2641 main_v2672 main_v2673 (addi : (⟨S131072, .i32⟩ : BufTy).Contents (Elt F) → (⟨S131072, .i32⟩ : BufTy).Contents (Elt F) → (⟨S131072, .i32⟩ : BufTy).Contents (Elt F)),
    StableHlo.ternary main_v2671 main_v2673 main_v2641 main_v2674 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_812 (constantI S_ 32 0#32),
    StableHlo.unary main_c_812 main_v2675 (broadcastInDim S131072 ![] bcast_S_S131072 : (⟨S_, .i32⟩ : BufTy).Contents (Elt F) → (⟨S131072, .i32⟩ : BufTy).Contents (Elt F)),
    StableHlo.binary main_v2633 main_v2675 main_v2676 (cmpi .slt : (⟨S131072, .i32⟩ : BufTy).Contents (Elt F) → (⟨S131072, .i32⟩ : BufTy).Contents (Elt F) → (⟨S131072, .i1⟩ : BufTy).Contents (Elt F)),
    StableHlo.nullary main_c_813 (constantI S_ 32 512#32),
    StableHlo.unary main_c_813 main_v2677 (broadcastInDim S131072 ![] bcast_S_S131072 : (⟨S_, .i32⟩ : BufTy).Contents (Elt F) → (⟨S131072, .i32⟩ : BufTy).Contents (Elt F)),
    StableHlo.binary main_v2633 main_v2677 main_v2678 (addi : (⟨S131072, .i32⟩ : BufTy).Contents (Elt F) → (⟨S131072, .i32⟩ : BufTy).Contents (Elt F) → (⟨S131072, .i32⟩ : BufTy).Contents (Elt F)),
    StableHlo.ternary main_v2676 main_v2678 main_v2633 main_v2679 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2674 main_v2680 (broadcastInDim S131072x1 ![0] bcast_S131072_S131072x1_0 : (⟨S131072, .i32⟩ : BufTy).Contents (Elt F) → (⟨S131072x1, .i32⟩ : BufTy).Contents (Elt F)),
    StableHlo.unary main_v2679 main_v2681 (broadcastInDim S131072x1 ![0] bcast_S131072_S131072x1_0 : (⟨S131072, .i32⟩ : BufTy).Contents (Elt F) → (⟨S131072x1, .i32⟩ : BufTy).Contents (Elt F)),
    StableHlo.binary main_v2680 main_v2681 main_v2682 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg22 main_v2682 main_v2683 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_814 (constantI S_ 32 0#32),
    StableHlo.unary main_c_814 main_v2684 (broadcastInDim S131072 ![] bcast_S_S131072 : (⟨S_, .i32⟩ : BufTy).Contents (Elt F) → (⟨S131072, .i32⟩ : BufTy).Contents (Elt F)),
    StableHlo.binary main_v2641 main_v2684 main_v2685 (cmpi .slt : (⟨S131072, .i32⟩ : BufTy).Contents (Elt F) → (⟨S131072, .i32⟩ : BufTy).Contents (Elt F) → (⟨S131072, .i1⟩ : BufTy).Contents (Elt F)),
    StableHlo.nullary main_c_815 (constantI S_ 32 150#32),
    StableHlo.unary main_c_815 main_v2686 (broadcastInDim S131072 ![] bcast_S_S131072 : (⟨S_, .i32⟩ : BufTy).Contents (Elt F) → (⟨S131072, .i32⟩ : BufTy).Contents (Elt F)),
    StableHlo.binary main_v2641 main_v2686 main_v2687 (addi : (⟨S131072, .i32⟩ : BufTy).Contents (Elt F) → (⟨S131072, .i32⟩ : BufTy).Contents (Elt F) → (⟨S131072, .i32⟩ : BufTy).Contents (Elt F)),
    StableHlo.ternary main_v2685 main_v2687 main_v2641 main_v2688 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_816 (constantI S_ 32 0#32),
    StableHlo.unary main_c_816 main_v2689 (broadcastInDim S131072 ![] bcast_S_S131072 : (⟨S_, .i32⟩ : BufTy).Contents (Elt F) → (⟨S131072, .i32⟩ : BufTy).Contents (Elt F)),
    StableHlo.binary main_v2636 main_v2689 main_v2690 (cmpi .slt : (⟨S131072, .i32⟩ : BufTy).Contents (Elt F) → (⟨S131072, .i32⟩ : BufTy).Contents (Elt F) → (⟨S131072, .i1⟩ : BufTy).Contents (Elt F)),
    StableHlo.nullary main_c_817 (constantI S_ 32 512#32),
    StableHlo.unary main_c_817 main_v2691 (broadcastInDim S131072 ![] bcast_S_S131072 : (⟨S_, .i32⟩ : BufTy).Contents (Elt F) → (⟨S131072, .i32⟩ : BufTy).Contents (Elt F)),
    StableHlo.binary main_v2636 main_v2691 main_v2692 (addi : (⟨S131072, .i32⟩ : BufTy).Contents (Elt F) → (⟨S131072, .i32⟩ : BufTy).Contents (Elt F) → (⟨S131072, .i32⟩ : BufTy).Contents (Elt F)),
    StableHlo.ternary main_v2690 main_v2692 main_v2636 main_v2693 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2688 main_v2694 (broadcastInDim S131072x1 ![0] bcast_S131072_S131072x1_0 : (⟨S131072, .i32⟩ : BufTy).Contents (Elt F) → (⟨S131072x1, .i32⟩ : BufTy).Contents (Elt F)),
    StableHlo.unary main_v2693 main_v2695 (broadcastInDim S131072x1 ![0] bcast_S131072_S131072x1_0 : (⟨S131072, .i32⟩ : BufTy).Contents (Elt F) → (⟨S131072x1, .i32⟩ : BufTy).Contents (Elt F)),
    StableHlo.binary main_v2694 main_v2695 main_v2696 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg22 main_v2696 main_v2697 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_cst_818 (constant S_ .f32 0x3F800000#32),
    StableHlo.unary main_cst_818 main_v2698 (broadcastInDim S131072 ![] bcast_S_S131072 : (⟨S_, .f32⟩ : BufTy).Contents (Elt F) → (⟨S131072, .f32⟩ : BufTy).Contents (Elt F)),
    StableHlo.binary main_v2698 main_v2630 main_v2699 (subf : (⟨S131072, .f32⟩ : BufTy).Contents (Elt F) → (⟨S131072, .f32⟩ : BufTy).Contents (Elt F) → (⟨S131072, .f32⟩ : BufTy).Contents (Elt F)),
    StableHlo.unary main_v2699 main_v2700 (broadcastInDim S1x131072 ![1] bcast_S131072_S1x131072_1 : (⟨S131072, .f32⟩ : BufTy).Contents (Elt F) → (⟨S1x131072, .f32⟩ : BufTy).Contents (Elt F)),
    StableHlo.unary main_v2700 main_v2701 (broadcastInDim S32x131072 ![0, 1] bcast_S1x131072_S32x131072_0_1 : (⟨S1x131072, .f32⟩ : BufTy).Contents (Elt F) → (⟨S32x131072, .f32⟩ : BufTy).Contents (Elt F)),
    StableHlo.binary main_v2655 main_v2701 main_v2702 (mulf : (⟨S32x131072, .f32⟩ : BufTy).Contents (Elt F) → (⟨S32x131072, .f32⟩ : BufTy).Contents (Elt F) → (⟨S32x131072, .f32⟩ : BufTy).Contents (Elt F)),
    StableHlo.nullary main_cst_819 (constant S_ .f32 0x3F800000#32),
    StableHlo.unary main_cst_819 main_v2703 (broadcastInDim S131072 ![] bcast_S_S131072 : (⟨S_, .f32⟩ : BufTy).Contents (Elt F) → (⟨S131072, .f32⟩ : BufTy).Contents (Elt F)),
    StableHlo.binary main_v2703 main_v2631 main_v2704 (subf : (⟨S131072, .f32⟩ : BufTy).Contents (Elt F) → (⟨S131072, .f32⟩ : BufTy).Contents (Elt F) → (⟨S131072, .f32⟩ : BufTy).Contents (Elt F)),
    StableHlo.unary main_v2704 main_v2705 (broadcastInDim S1x131072 ![1] bcast_S131072_S1x131072_1 : (⟨S131072, .f32⟩ : BufTy).Contents (Elt F) → (⟨S1x131072, .f32⟩ : BufTy).Contents (Elt F)),
    StableHlo.unary main_v2705 main_v2706 (broadcastInDim S32x131072 ![0, 1] bcast_S1x131072_S32x131072_0_1 : (⟨S1x131072, .f32⟩ : BufTy).Contents (Elt F) → (⟨S32x131072, .f32⟩ : BufTy).Contents (Elt F)),
    StableHlo.binary main_v2702 main_v2706 main_v2707 (mulf : (⟨S32x131072, .f32⟩ : BufTy).Contents (Elt F) → (⟨S32x131072, .f32⟩ : BufTy).Contents (Elt F) → (⟨S32x131072, .f32⟩ : BufTy).Contents (Elt F)),
    StableHlo.unary main_v2630 main_v2708 (broadcastInDim S1x131072 ![1] bcast_S131072_S1x131072_1 : (⟨S131072, .f32⟩ : BufTy).Contents (Elt F) → (⟨S1x131072, .f32⟩ : BufTy).Contents (Elt F)),
    StableHlo.unary main_v2708 main_v2709 (broadcastInDim S32x131072 ![0, 1] bcast_S1x131072_S32x131072_0_1 : (⟨S1x131072, .f32⟩ : BufTy).Contents (Elt F) → (⟨S32x131072, .f32⟩ : BufTy).Contents (Elt F)),
    StableHlo.binary main_v2669 main_v2709 main_v2710 (mulf : (⟨S32x131072, .f32⟩ : BufTy).Contents (Elt F) → (⟨S32x131072, .f32⟩ : BufTy).Contents (Elt F) → (⟨S32x131072, .f32⟩ : BufTy).Contents (Elt F)),
    StableHlo.nullary main_cst_820 (constant S_ .f32 0x3F800000#32),
    StableHlo.unary main_cst_820 main_v2711 (broadcastInDim S131072 ![] bcast_S_S131072 : (⟨S_, .f32⟩ : BufTy).Contents (Elt F) → (⟨S131072, .f32⟩ : BufTy).Contents (Elt F)),
    StableHlo.binary main_v2711 main_v2631 main_v2712 (subf : (⟨S131072, .f32⟩ : BufTy).Contents (Elt F) → (⟨S131072, .f32⟩ : BufTy).Contents (Elt F) → (⟨S131072, .f32⟩ : BufTy).Contents (Elt F)),
    StableHlo.unary main_v2712 main_v2713 (broadcastInDim S1x131072 ![1] bcast_S131072_S1x131072_1 : (⟨S131072, .f32⟩ : BufTy).Contents (Elt F) → (⟨S1x131072, .f32⟩ : BufTy).Contents (Elt F)),
    StableHlo.unary main_v2713 main_v2714 (broadcastInDim S32x131072 ![0, 1] bcast_S1x131072_S32x131072_0_1 : (⟨S1x131072, .f32⟩ : BufTy).Contents (Elt F) → (⟨S32x131072, .f32⟩ : BufTy).Contents (Elt F)),
    StableHlo.binary main_v2710 main_v2714 main_v2715 (mulf : (⟨S32x131072, .f32⟩ : BufTy).Contents (Elt F) → (⟨S32x131072, .f32⟩ : BufTy).Contents (Elt F) → (⟨S32x131072, .f32⟩ : BufTy).Contents (Elt F)),
    StableHlo.binary main_v2707 main_v2715 main_v2716 (addf : (⟨S32x131072, .f32⟩ : BufTy).Contents (Elt F) → (⟨S32x131072, .f32⟩ : BufTy).Contents (Elt F) → (⟨S32x131072, .f32⟩ : BufTy).Contents (Elt F)) ]
theorem w58_eq (c : Dev nD) : main_part58 (F := F) c = seq w58 := rfl
theorem w58_sub : (w58 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub ..⟩
theorem w58_fresh : (w58 : List (HloOp τ sig (Elt F))).Forall fun op => op.fresh = ∅ := by
  simp only [List.Forall]; repeat' constructor
set_option maxHeartbeats 4000000 in
theorem w58_chain : Chain 3928 (w58 : List (HloOp τ sig (Elt F))) :=
  Chain.cons (stepAt_binary 3928 _ _ _ _ rfl (by decide) (by decide)) <|
  Chain.cons (stepAt_binary 3929 _ _ _ _ rfl (by decide) (by decide)) <|
  Chain.cons (stepAt_nullary 3930 _ _ rfl) <|
  Chain.cons (stepAt_unary 3931 _ _ _ rfl (by decide)) <|
  Chain.cons (stepAt_binary 3932 _ _ _ _ rfl (by decide) (by decide)) <|
  Chain.cons (stepAt_nullary 3933 _ _ rfl) <|
  Chain.cons (stepAt_unary 3934 _ _ _ rfl (by decide)) <|
  Chain.cons (stepAt_binary 3935 _ _ _ _ rfl (by decide) (by decide)) <|
  Chain.cons (stepAt_ternary 3936 _ _ _ _ _ rfl (by decide) (by decide) (by decide)) <|
  Chain.cons (stepAt_nullary 3937 _ _ rfl) <|
  Chain.cons (stepAt_unary 3938 _ _ _ rfl (by decide)) <|
  Chain.cons (stepAt_binary 3939 _ _ _ _ rfl (by decide) (by decide)) <|
  Chain.cons (stepAt_nullary 3940 _ _ rfl) <|
  Chain.cons (stepAt_unary 3941 _ _ _ rfl (by decide)) <|
  Chain.cons (stepAt_binary 3942 _ _ _ _ rfl (by decide) (by decide)) <|
  Chain.cons (stepAt_ternary 3943 _ _ _ _ _ rfl (by decide) (by decide) (by decide)) <|
  Chain.cons (stepAt_unary 3944 _ _ _ rfl (by decide)) <|
  Chain.cons (stepAt_unary 3945 _ _ _ rfl (by decide)) <|
  Chain.cons (stepAt_binary 3946 _ _ _ _ rfl (by decide) (by decide)) <|
  Chain.cons (stepAt_binary 3947 _ _ _ _ rfl (by decide) (by decide)) <|
  Chain.cons (stepAt_nullary 3948 _ _ rfl) <|
  Chain.cons (stepAt_unary 3949 _ _ _ rfl (by decide)) <|
  Chain.cons (stepAt_binary 3950 _ _ _ _ rfl (by decide) (by decide)) <|
  Chain.cons (stepAt_nullary 3951 _ _ rfl) <|
  Chain.cons (stepAt_unary 3952 _ _ _ rfl (by decide)) <|
  Chain.cons (stepAt_binary 3953 _ _ _ _ rfl (by decide) (by decide)) <|
  Chain.cons (stepAt_ternary 3954 _ _ _ _ _ rfl (by decide) (by decide) (by decide)) <|
  Chain.cons (stepAt_nullary 3955 _ _ rfl) <|
  Chain.cons (stepAt_unary 3956 _ _ _ rfl (by decide)) <|
  Chain.cons (stepAt_binary 3957 _ _ _ _ rfl (by decide) (by decide)) <|
  Chain.cons (stepAt_nullary 3958 _ _ rfl) <|
  Chain.cons (stepAt_unary 3959 _ _ _ rfl (by decide)) <|
  Chain.cons (stepAt_binary 3960 _ _ _ _ rfl (by decide) (by decide)) <|
  Chain.cons (stepAt_ternary 3961 _ _ _ _ _ rfl (by decide) (by decide) (by decide)) <|
  Chain.cons (stepAt_unary 3962 _ _ _ rfl (by decide)) <|
  Chain.cons (stepAt_unary 3963 _ _ _ rfl (by decide)) <|
  Chain.cons (stepAt_binary 3964 _ _ _ _ rfl (by decide) (by decide)) <|
  Chain.cons (stepAt_binary 3965 _ _ _ _ rfl (by decide) (by decide)) <|
  Chain.cons (stepAt_nullary 3966 _ _ rfl) <|
  Chain.cons (stepAt_unary 3967 _ _ _ rfl (by decide)) <|
  Chain.cons (stepAt_binary 3968 _ _ _ _ rfl (by decide) (by decide)) <|
  Chain.cons (stepAt_unary 3969 _ _ _ rfl (by decide)) <|
  Chain.cons (stepAt_unary 3970 _ _ _ rfl (by decide)) <|
  Chain.cons (stepAt_binary 3971 _ _ _ _ rfl (by decide) (by decide)) <|
  Chain.cons (stepAt_nullary 3972 _ _ rfl) <|
  Chain.cons (stepAt_unary 3973 _ _ _ rfl (by decide)) <|
  Chain.cons (stepAt_binary 3974 _ _ _ _ rfl (by decide) (by decide)) <|
  Chain.cons (stepAt_unary 3975 _ _ _ rfl (by decide)) <|
  Chain.cons (stepAt_unary 3976 _ _ _ rfl (by decide)) <|
  Chain.cons (stepAt_binary 3977 _ _ _ _ rfl (by decide) (by decide)) <|
  Chain.cons (stepAt_unary 3978 _ _ _ rfl (by decide)) <|
  Chain.cons (stepAt_unary 3979 _ _ _ rfl (by decide)) <|
  Chain.cons (stepAt_binary 3980 _ _ _ _ rfl (by decide) (by decide)) <|
  Chain.cons (stepAt_nullary 3981 _ _ rfl) <|
  Chain.cons (stepAt_unary 3982 _ _ _ rfl (by decide)) <|
  Chain.cons (stepAt_binary 3983 _ _ _ _ rfl (by decide) (by decide)) <|
  Chain.cons (stepAt_unary 3984 _ _ _ rfl (by decide)) <|
  Chain.cons (stepAt_unary 3985 _ _ _ rfl (by decide)) <|
  Chain.cons (stepAt_binary 3986 _ _ _ _ rfl (by decide) (by decide)) <|
  Chain.cons (stepAt_binary 3987 _ _ _ _ rfl (by decide) (by decide)) <|
  Chain.nil
theorem w58_length : (w58 : List (HloOp τ sig (Elt F))).length = 60 := rfl

/-- Window 59 of @main: 65 operations, writing buffers 3988 … 4052. -/
abbrev w59 : List (HloOp τ sig (Elt F)) :=
  [ StableHlo.nullary main_cst_821 (constant S_ .f32 0x3F800000#32),
    StableHlo.unary main_cst_821 main_v2717 (broadcastInDim S131072 ![] bcast_S_S131072 : (⟨S_, .f32⟩ : BufTy).Contents (Elt F) → (⟨S131072, .f32⟩ : BufTy).Contents (Elt F)),
    StableHlo.binary main_v2717 main_v2630 main_v2718 (subf : (⟨S131072, .f32⟩ : BufTy).Contents (Elt F) → (⟨S131072, .f32⟩ : BufTy).Contents (Elt F) → (⟨S131072, .f32⟩ : BufTy).Contents (Elt F)),
    StableHlo.unary main_v2718 main_v2719 (broadcastInDim S1x131072 ![1] bcast_S131072_S1x131072_1 : (⟨S131072, .f32⟩ : BufTy).Contents (Elt F) → (⟨S1x131072, .f32⟩ : BufTy).Contents (Elt F)),
    StableHlo.unary main_v2719 main_v2720 (broadcastInDim S32x131072 ![0, 1] bcast_S1x131072_S32x131072_0_1 : (⟨S1x131072, .f32⟩ : BufTy).Contents (Elt F) → (⟨S32x131072, .f32⟩ : BufTy).Contents (Elt F)),
    StableHlo.binary main_v2683 main_v2720 main_v2721 (mulf : (⟨S32x131072, .f32⟩ : BufTy).Contents (Elt F) → (⟨S32x131072, .f32⟩ : BufTy).Contents (Elt F) → (⟨S32x131072, .f32⟩ : BufTy).Contents (Elt F)),
    StableHlo.unary main_v2631 main_v2722 (broadcastInDim S1x131072 ![1] bcast_S131072_S1x131072_1 : (⟨S131072, .f32⟩ : BufTy).Contents (Elt F) → (⟨S1x131072, .f32⟩ : BufTy).Contents (Elt F)),
    StableHlo.unary main_v2722 main_v2723 (broadcastInDim S32x131072 ![0, 1] bcast_S1x131072_S32x131072_0_1 : (⟨S1x131072, .f32⟩ : BufTy).Contents (Elt F) → (⟨S32x131072, .f32⟩ : BufTy).Contents (Elt F)),
    StableHlo.binary main_v2721 main_v2723 main_v2724 (mulf : (⟨S32x131072, .f32⟩ : BufTy).Contents (Elt F) → (⟨S32x131072, .f32⟩ : BufTy).Contents (Elt F) → (⟨S32x131072, .f32⟩ : BufTy).Contents (Elt F)),
    StableHlo.binary main_v2716 main_v2724 main_v2725 (addf : (⟨S32x131072, .f32⟩ : BufTy).Contents (Elt F) → (⟨S32x131072, .f32⟩ : BufTy).Contents (Elt F) → (⟨S32x131072, .f32⟩ : BufTy).Contents (Elt F)),
    StableHlo.unary main_v2630 main_v2726 (broadcastInDim S1x131072 ![1] bcast_S131072_S1x131072_1 : (⟨S131072, .f32⟩ : BufTy).Contents (Elt F) → (⟨S1x131072, .f32⟩ : BufTy).Contents (Elt F)),
    StableHlo.unary main_v2726 main_v2727 (broadcastInDim S32x131072 ![0, 1] bcast_S1x131072_S32x131072_0_1 : (⟨S1x131072, .f32⟩ : BufTy).Contents (Elt F) → (⟨S32x131072, .f32⟩ : BufTy).Contents (Elt F)),
    StableHlo.binary main_v2697 main_v2727 main_v2728 (mulf : (⟨S32x131072, .f32⟩ : BufTy).Contents (Elt F) → (⟨S32x131072, .f32⟩ : BufTy).Contents (Elt F) → (⟨S32x131072, .f32⟩ : BufTy).Contents (Elt F)),
    StableHlo.unary main_v2631 main_v2729 (broadcastInDim S1x131072 ![1] bcast_S131072_S1x131072_1 : (⟨S131072, .f32⟩ : BufTy).Contents (Elt F) → (⟨S1x131072, .f32⟩ : BufTy).Contents (Elt F)),
    StableHlo.unary main_v2729 main_v2730 (broadcastInDim S32x131072 ![0, 1] bcast_S1x131072_S32x131072_0_1 : (⟨S1x131072, .f32⟩ : BufTy).Contents (Elt F) → (⟨S32x131072, .f32⟩ : BufTy).Contents (Elt F)),
    StableHlo.binary main_v2728 main_v2730 main_v2731 (mulf : (⟨S32x131072, .f32⟩ : BufTy).Contents (Elt F) → (⟨S32x131072, .f32⟩ : BufTy).Contents (Elt F) → (⟨S32x131072, .f32⟩ : BufTy).Contents (Elt F)),
    StableHlo.binary main_v2725 main_v2731 main_v2732 (addf : (⟨S32x131072, .f32⟩ : BufTy).Contents (Elt F) → (⟨S32x131072, .f32⟩ : BufTy).Contents (Elt F) → (⟨S32x131072, .f32⟩ : BufTy).Contents (Elt F)),
    StableHlo.unary main_v2732 main_v2733 ((transpose S131072x32 [1, 0] · transposes_S32x131072_S131072x32_1_0) : (⟨S32x131072, .f32⟩ : BufTy).Contents (Elt F) → (⟨S131072x32, .f32⟩ : BufTy).Contents (Elt F)),
    StableHlo.binary main_v2604 main_v2733 main_v2734 (mulf : (⟨S131072x32, .f32⟩ : BufTy).Contents (Elt F) → (⟨S131072x32, .f32⟩ : BufTy).Contents (Elt F) → (⟨S131072x32, .f32⟩ : BufTy).Contents (Elt F)),
    StableHlo.nullary main_c_822 (constantI S_ 32 0#32),
    StableHlo.unary main_c_822 main_v2735 (broadcastInDim S2 ![] bcast_S_S2 : (⟨S_, .i32⟩ : BufTy).Contents (Elt F) → (⟨S2, .i32⟩ : BufTy).Contents (Elt F)),
    StableHlo.binary main_c_20 main_v2735 main_v2736 (cmpi .slt : (⟨S2, .i32⟩ : BufTy).Contents (Elt F) → (⟨S2, .i32⟩ : BufTy).Contents (Elt F) → (⟨S2, .i1⟩ : BufTy).Contents (Elt F)),
    StableHlo.nullary main_c_823 (constantI S_ 32 4#32),
    StableHlo.unary main_c_823 main_v2737 (broadcastInDim S2 ![] bcast_S_S2 : (⟨S_, .i32⟩ : BufTy).Contents (Elt F) → (⟨S2, .i32⟩ : BufTy).Contents (Elt F)),
    StableHlo.binary main_c_20 main_v2737 main_v2738 (addi : (⟨S2, .i32⟩ : BufTy).Contents (Elt F) → (⟨S2, .i32⟩ : BufTy).Contents (Elt F) → (⟨S2, .i32⟩ : BufTy).Contents (Elt F)),
    StableHlo.ternary main_v2736 main_v2738 main_c_20 main_v2739 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2739 main_v2740 (broadcastInDim S2x1 ![0] bcast_S2_S2x1_0 : (⟨S2, .i32⟩ : BufTy).Contents (Elt F) → (⟨S2x1, .i32⟩ : BufTy).Contents (Elt F)),
    StableHlo.binary main_v8 main_v2740 main_v2741 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2741 main_v2742 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2742 main_v2743 rfl shapeCasts_S131072x1_S131072,
    StableHlo.nullary main_cst_824 (constant S_ .f32 0x3F800000#32),
    StableHlo.unary main_cst_824 main_v2744 (broadcastInDim S131072 ![] bcast_S_S131072 : (⟨S_, .f32⟩ : BufTy).Contents (Elt F) → (⟨S131072, .f32⟩ : BufTy).Contents (Elt F)),
    StableHlo.binary main_v2743 main_v2744 main_v2745 (addf : (⟨S131072, .f32⟩ : BufTy).Contents (Elt F) → (⟨S131072, .f32⟩ : BufTy).Contents (Elt F) → (⟨S131072, .f32⟩ : BufTy).Contents (Elt F)),
    StableHlo.nullary main_cst_825 (constant S_ .f32 0x3F000000#32),
    StableHlo.unary main_cst_825 main_v2746 (broadcastInDim S131072 ![] bcast_S_S131072 : (⟨S_, .f32⟩ : BufTy).Contents (Elt F) → (⟨S131072, .f32⟩ : BufTy).Contents (Elt F)),
    StableHlo.binary main_v2745 main_v2746 main_v2747 (mulf : (⟨S131072, .f32⟩ : BufTy).Contents (Elt F) → (⟨S131072, .f32⟩ : BufTy).Contents (Elt F) → (⟨S131072, .f32⟩ : BufTy).Contents (Elt F)),
    StableHlo.nullary main_cst_826 (constant S_ .f32 0x43FF8000#32),
    StableHlo.unary main_cst_826 main_v2748 (broadcastInDim S131072 ![] bcast_S_S131072 : (⟨S_, .f32⟩ : BufTy).Contents (Elt F) → (⟨S131072, .f32⟩ : BufTy).Contents (Elt F)),
    StableHlo.binary main_v2747 main_v2748 main_v2749 (mulf : (⟨S131072, .f32⟩ : BufTy).Contents (Elt F) → (⟨S131072, .f32⟩ : BufTy).Contents (Elt F) → (⟨S131072, .f32⟩ : BufTy).Contents (Elt F)),
    StableHlo.unary main_v2741 main_v2750 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2750 main_v2751 rfl shapeCasts_S131072x1_S131072,
    StableHlo.nullary main_cst_827 (constant S_ .f32 0x3F800000#32),
    StableHlo.unary main_cst_827 main_v2752 (broadcastInDim S131072 ![] bcast_S_S131072 : (⟨S_, .f32⟩ : BufTy).Contents (Elt F) → (⟨S131072, .f32⟩ : BufTy).Contents (Elt F)),
    StableHlo.binary main_v2751 main_v2752 main_v2753 (addf : (⟨S131072, .f32⟩ : BufTy).Contents (Elt F) → (⟨S131072, .f32⟩ : BufTy).Contents (Elt F) → (⟨S131072, .f32⟩ : BufTy).Contents (Elt F)),
    StableHlo.nullary main_cst_828 (constant S_ .f32 0x3F000000#32),
    StableHlo.unary main_cst_828 main_v2754 (broadcastInDim S131072 ![] bcast_S_S131072 : (⟨S_, .f32⟩ : BufTy).Contents (Elt F) → (⟨S131072, .f32⟩ : BufTy).Contents (Elt F)),
    StableHlo.binary main_v2753 main_v2754 main_v2755 (mulf : (⟨S131072, .f32⟩ : BufTy).Contents (Elt F) → (⟨S131072, .f32⟩ : BufTy).Contents (Elt F) → (⟨S131072, .f32⟩ : BufTy).Contents (Elt F)),
    StableHlo.nullary main_cst_829 (constant S_ .f32 0x43FF8000#32),
    StableHlo.unary main_cst_829 main_v2756 (broadcastInDim S131072 ![] bcast_S_S131072 : (⟨S_, .f32⟩ : BufTy).Contents (Elt F) → (⟨S131072, .f32⟩ : BufTy).Contents (Elt F)),
    StableHlo.binary main_v2755 main_v2756 main_v2757 (mulf : (⟨S131072, .f32⟩ : BufTy).Contents (Elt F) → (⟨S131072, .f32⟩ : BufTy).Contents (Elt F) → (⟨S131072, .f32⟩ : BufTy).Contents (Elt F)),
    StableHlo.unary main_v2749 main_v2758 (Host.floor : (⟨S131072, .f32⟩ : BufTy).Contents (Elt F) → (⟨S131072, .f32⟩ : BufTy).Contents (Elt F)),
    StableHlo.unary main_v2757 main_v2759 (Host.floor : (⟨S131072, .f32⟩ : BufTy).Contents (Elt F) → (⟨S131072, .f32⟩ : BufTy).Contents (Elt F)),
    StableHlo.binary main_v2749 main_v2758 main_v2760 (subf : (⟨S131072, .f32⟩ : BufTy).Contents (Elt F) → (⟨S131072, .f32⟩ : BufTy).Contents (Elt F) → (⟨S131072, .f32⟩ : BufTy).Contents (Elt F)),
    StableHlo.binary main_v2757 main_v2759 main_v2761 (subf : (⟨S131072, .f32⟩ : BufTy).Contents (Elt F) → (⟨S131072, .f32⟩ : BufTy).Contents (Elt F) → (⟨S131072, .f32⟩ : BufTy).Contents (Elt F)),
    StableHlo.unary main_v2758 main_v2762 (fptosi 32 : (⟨S131072, .f32⟩ : BufTy).Contents (Elt F) → (⟨S131072, .i32⟩ : BufTy).Contents (Elt F)),
    StableHlo.nullary main_c_830 (constantI S_ 32 0#32),
    StableHlo.nullary main_c_831 (constantI S_ 32 511#32),
    StableHlo.TRef.unary (.of main_c_830) main_call84.v0 id,
    StableHlo.TRef.unary main_call84.v0 main_call84.v1 (broadcastInDim S131072 ![] bcast_S_S131072),
    StableHlo.TRef.binary main_call84.v1 (.of main_v2762) main_call84.v2 maxsi,
    StableHlo.TRef.unary (.of main_c_831) main_call84.v3 id,
    StableHlo.TRef.unary main_call84.v3 main_call84.v4 (broadcastInDim S131072 ![] bcast_S_S131072),
    StableHlo.TRef.binary main_call84.v4 main_call84.v2 main_call84.v5 minsi,
    StableHlo.nullary main_c_832 (constantI S_ 32 1#32),
    StableHlo.unary main_c_832 main_v2764 (broadcastInDim S131072 ![] bcast_S_S131072 : (⟨S_, .i32⟩ : BufTy).Contents (Elt F) → (⟨S131072, .i32⟩ : BufTy).Contents (Elt F)) ]
theorem w59_eq (c : Dev nD) : main_part59 (F := F) c = seq w59 := rfl
theorem w59_sub : (w59 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub ..⟩
theorem w59_fresh : (w59 : List (HloOp τ sig (Elt F))).Forall fun op => op.fresh = ∅ := by
  simp only [List.Forall]; repeat' constructor
set_option maxHeartbeats 4000000 in
theorem w59_chain : Chain 3988 (w59 : List (HloOp τ sig (Elt F))) :=
  Chain.cons (stepAt_nullary 3988 _ _ rfl) <|
  Chain.cons (stepAt_unary 3989 _ _ _ rfl (by decide)) <|
  Chain.cons (stepAt_binary 3990 _ _ _ _ rfl (by decide) (by decide)) <|
  Chain.cons (stepAt_unary 3991 _ _ _ rfl (by decide)) <|
  Chain.cons (stepAt_unary 3992 _ _ _ rfl (by decide)) <|
  Chain.cons (stepAt_binary 3993 _ _ _ _ rfl (by decide) (by decide)) <|
  Chain.cons (stepAt_unary 3994 _ _ _ rfl (by decide)) <|
  Chain.cons (stepAt_unary 3995 _ _ _ rfl (by decide)) <|
  Chain.cons (stepAt_binary 3996 _ _ _ _ rfl (by decide) (by decide)) <|
  Chain.cons (stepAt_binary 3997 _ _ _ _ rfl (by decide) (by decide)) <|
  Chain.cons (stepAt_unary 3998 _ _ _ rfl (by decide)) <|
  Chain.cons (stepAt_unary 3999 _ _ _ rfl (by decide)) <|
  Chain.cons (stepAt_binary 4000 _ _ _ _ rfl (by decide) (by decide)) <|
  Chain.cons (stepAt_unary 4001 _ _ _ rfl (by decide)) <|
  Chain.cons (stepAt_unary 4002 _ _ _ rfl (by decide)) <|
  Chain.cons (stepAt_binary 4003 _ _ _ _ rfl (by decide) (by decide)) <|
  Chain.cons (stepAt_binary 4004 _ _ _ _ rfl (by decide) (by decide)) <|
  Chain.cons (stepAt_unary 4005 _ _ _ rfl (by decide)) <|
  Chain.cons (stepAt_binary 4006 _ _ _ _ rfl (by decide) (by decide)) <|
  Chain.cons (stepAt_nullary 4007 _ _ rfl) <|
  Chain.cons (stepAt_unary 4008 _ _ _ rfl (by decide)) <|
  Chain.cons (stepAt_binary 4009 _ _ _ _ rfl (by decide) (by decide)) <|
  Chain.cons (stepAt_nullary 4010 _ _ rfl) <|
  Chain.cons (stepAt_unary 4011 _ _ _ rfl (by decide)) <|
  Chain.cons (stepAt_binary 4012 _ _ _ _ rfl (by decide) (by decide)) <|
  Chain.cons (stepAt_ternary 4013 _ _ _ _ _ rfl (by decide) (by decide) (by decide)) <|
  Chain.cons (stepAt_unary 4014 _ _ _ rfl (by decide)) <|
  Chain.cons (stepAt_binary 4015 _ _ _ _ rfl (by decide) (by decide)) <|
  Chain.cons (stepAt_unary 4016 _ _ _ rfl (by decide)) <|
  Chain.cons (stepAt_reshape 4017 _ _ _ _ rfl (by decide)) <|
  Chain.cons (stepAt_nullary 4018 _ _ rfl) <|
  Chain.cons (stepAt_unary 4019 _ _ _ rfl (by decide)) <|
  Chain.cons (stepAt_binary 4020 _ _ _ _ rfl (by decide) (by decide)) <|
  Chain.cons (stepAt_nullary 4021 _ _ rfl) <|
  Chain.cons (stepAt_unary 4022 _ _ _ rfl (by decide)) <|
  Chain.cons (stepAt_binary 4023 _ _ _ _ rfl (by decide) (by decide)) <|
  Chain.cons (stepAt_nullary 4024 _ _ rfl) <|
  Chain.cons (stepAt_unary 4025 _ _ _ rfl (by decide)) <|
  Chain.cons (stepAt_binary 4026 _ _ _ _ rfl (by decide) (by decide)) <|
  Chain.cons (stepAt_unary 4027 _ _ _ rfl (by decide)) <|
  Chain.cons (stepAt_reshape 4028 _ _ _ _ rfl (by decide)) <|
  Chain.cons (stepAt_nullary 4029 _ _ rfl) <|
  Chain.cons (stepAt_unary 4030 _ _ _ rfl (by decide)) <|
  Chain.cons (stepAt_binary 4031 _ _ _ _ rfl (by decide) (by decide)) <|
  Chain.cons (stepAt_nullary 4032 _ _ rfl) <|
  Chain.cons (stepAt_unary 4033 _ _ _ rfl (by decide)) <|
  Chain.cons (stepAt_binary 4034 _ _ _ _ rfl (by decide) (by decide)) <|
  Chain.cons (stepAt_nullary 4035 _ _ rfl) <|
  Chain.cons (stepAt_unary 4036 _ _ _ rfl (by decide)) <|
  Chain.cons (stepAt_binary 4037 _ _ _ _ rfl (by decide) (by decide)) <|
  Chain.cons (stepAt_unary 4038 _ _ _ rfl (by decide)) <|
  Chain.cons (stepAt_unary 4039 _ _ _ rfl (by decide)) <|
  Chain.cons (stepAt_binary 4040 _ _ _ _ rfl (by decide) (by decide)) <|
  Chain.cons (stepAt_binary 4041 _ _ _ _ rfl (by decide) (by decide)) <|
  Chain.cons (stepAt_unary 4042 _ _ _ rfl (by decide)) <|
  Chain.cons (stepAt_nullary 4043 _ _ rfl) <|
  Chain.cons (stepAt_nullary 4044 _ _ rfl) <|
  Chain.cons (stepAt_unary 4045 _ _ _ rfl (by decide)) <|
  Chain.cons (stepAt_unary 4046 _ _ _ rfl (by decide)) <|
  Chain.cons (stepAt_binary 4047 _ _ _ _ rfl (by decide) (by decide)) <|
  Chain.cons (stepAt_unary 4048 _ _ _ rfl (by decide)) <|
  Chain.cons (stepAt_unary 4049 _ _ _ rfl (by decide)) <|
  Chain.cons (stepAt_binary 4050 _ _ _ _ rfl (by decide) (by decide)) <|
  Chain.cons (stepAt_nullary 4051 _ _ rfl) <|
  Chain.cons (stepAt_unary 4052 _ _ _ rfl (by decide)) <|
  Chain.nil
theorem w59_length : (w59 : List (HloOp τ sig (Elt F))).length = 65 := rfl

/-- Window 60 of @main: 75 operations, writing buffers 4053 … 4127. -/
abbrev w60 : List (HloOp τ sig (Elt F)) :=
  [ StableHlo.binary main_v2763 main_v2764 main_v2765 (addi : (⟨S131072, .i32⟩ : BufTy).Contents (Elt F) → (⟨S131072, .i32⟩ : BufTy).Contents (Elt F) → (⟨S131072, .i32⟩ : BufTy).Contents (Elt F)),
    StableHlo.nullary main_c_833 (constantI S_ 32 0#32),
    StableHlo.nullary main_c_834 (constantI S_ 32 511#32),
    StableHlo.TRef.unary (.of main_c_833) main_call85.v0 id,
    StableHlo.TRef.unary main_call85.v0 main_call85.v1 (broadcastInDim S131072 ![] bcast_S_S131072),
    StableHlo.TRef.binary main_call85.v1 (.of main_v2765) main_call85.v2 maxsi,
    StableHlo.TRef.unary (.of main_c_834) main_call85.v3 id,
    StableHlo.TRef.unary main_call85.v3 main_call85.v4 (broadcastInDim S131072 ![] bcast_S_S131072),
    StableHlo.TRef.binary main_call85.v4 main_call85.v2 main_call85.v5 minsi,
    StableHlo.unary main_v2759 main_v2767 (fptosi 32 : (⟨S131072, .f32⟩ : BufTy).Contents (Elt F) → (⟨S131072, .i32⟩ : BufTy).Contents (Elt F)),
    StableHlo.nullary main_c_835 (constantI S_ 32 0#32),
    StableHlo.nullary main_c_836 (constantI S_ 32 511#32),
    StableHlo.TRef.unary (.of main_c_835) main_call86.v0 id,
    StableHlo.TRef.unary main_call86.v0 main_call86.v1 (broadcastInDim S131072 ![] bcast_S_S131072),
    StableHlo.TRef.binary main_call86.v1 (.of main_v2767) main_call86.v2 maxsi,
    StableHlo.TRef.unary (.of main_c_836) main_call86.v3 id,
    StableHlo.TRef.unary main_call86.v3 main_call86.v4 (broadcastInDim S131072 ![] bcast_S_S131072),
    StableHlo.TRef.binary main_call86.v4 main_call86.v2 main_call86.v5 minsi,
    StableHlo.nullary main_c_837 (constantI S_ 32 1#32),
    StableHlo.unary main_c_837 main_v2769 (broadcastInDim S131072 ![] bcast_S_S131072 : (⟨S_, .i32⟩ : BufTy).Contents (Elt F) → (⟨S131072, .i32⟩ : BufTy).Contents (Elt F)),
    StableHlo.binary main_v2768 main_v2769 main_v2770 (addi : (⟨S131072, .i32⟩ : BufTy).Contents (Elt F) → (⟨S131072, .i32⟩ : BufTy).Contents (Elt F) → (⟨S131072, .i32⟩ : BufTy).Contents (Elt F)),
    StableHlo.nullary main_c_838 (constantI S_ 32 0#32),
    StableHlo.nullary main_c_839 (constantI S_ 32 511#32),
    StableHlo.TRef.unary (.of main_c_838) main_call87.v0 id,
    StableHlo.TRef.unary main_call87.v0 main_call87.v1 (broadcastInDim S131072 ![] bcast_S_S131072),
    StableHlo.TRef.binary main_call87.v1 (.of main_v2770) main_call87.v2 maxsi,
    StableHlo.TRef.unary (.of main_c_839) main_call87.v3 id,
    StableHlo.TRef.unary main_call87.v3 main_call87.v4 (broadcastInDim S131072 ![] bcast_S_S131072),
    StableHlo.TRef.binary main_call87.v4 main_call87.v2 main_call87.v5 minsi,
    StableHlo.nullary main_c_840 (constantI S_ 32 0#32),
    StableHlo.unary main_c_840 main_v2772 (broadcastInDim S131072 ![] bcast_S_S131072 : (⟨S_, .i32⟩ : BufTy).Contents (Elt F) → (⟨S131072, .i32⟩ : BufTy).Contents (Elt F)),
    StableHlo.binary main_v2768 main_v2772 main_v2773 (cmpi .slt : (⟨S131072, .i32⟩ : BufTy).Contents (Elt F) → (⟨S131072, .i32⟩ : BufTy).Contents (Elt F) → (⟨S131072, .i1⟩ : BufTy).Contents (Elt F)),
    StableHlo.nullary main_c_841 (constantI S_ 32 512#32),
    StableHlo.unary main_c_841 main_v2774 (broadcastInDim S131072 ![] bcast_S_S131072 : (⟨S_, .i32⟩ : BufTy).Contents (Elt F) → (⟨S131072, .i32⟩ : BufTy).Contents (Elt F)),
    StableHlo.binary main_v2768 main_v2774 main_v2775 (addi : (⟨S131072, .i32⟩ : BufTy).Contents (Elt F) → (⟨S131072, .i32⟩ : BufTy).Contents (Elt F) → (⟨S131072, .i32⟩ : BufTy).Contents (Elt F)),
    StableHlo.ternary main_v2773 main_v2775 main_v2768 main_v2776 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_842 (constantI S_ 32 0#32),
    StableHlo.unary main_c_842 main_v2777 (broadcastInDim S131072 ![] bcast_S_S131072 : (⟨S_, .i32⟩ : BufTy).Contents (Elt F) → (⟨S131072, .i32⟩ : BufTy).Contents (Elt F)),
    StableHlo.binary main_v2763 main_v2777 main_v2778 (cmpi .slt : (⟨S131072, .i32⟩ : BufTy).Contents (Elt F) → (⟨S131072, .i32⟩ : BufTy).Contents (Elt F) → (⟨S131072, .i1⟩ : BufTy).Contents (Elt F)),
    StableHlo.nullary main_c_843 (constantI S_ 32 512#32),
    StableHlo.unary main_c_843 main_v2779 (broadcastInDim S131072 ![] bcast_S_S131072 : (⟨S_, .i32⟩ : BufTy).Contents (Elt F) → (⟨S131072, .i32⟩ : BufTy).Contents (Elt F)),
    StableHlo.binary main_v2763 main_v2779 main_v2780 (addi : (⟨S131072, .i32⟩ : BufTy).Contents (Elt F) → (⟨S131072, .i32⟩ : BufTy).Contents (Elt F) → (⟨S131072, .i32⟩ : BufTy).Contents (Elt F)),
    StableHlo.ternary main_v2778 main_v2780 main_v2763 main_v2781 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2776 main_v2782 (broadcastInDim S131072x1 ![0] bcast_S131072_S131072x1_0 : (⟨S131072, .i32⟩ : BufTy).Contents (Elt F) → (⟨S131072x1, .i32⟩ : BufTy).Contents (Elt F)),
    StableHlo.unary main_v2781 main_v2783 (broadcastInDim S131072x1 ![0] bcast_S131072_S131072x1_0 : (⟨S131072, .i32⟩ : BufTy).Contents (Elt F) → (⟨S131072x1, .i32⟩ : BufTy).Contents (Elt F)),
    StableHlo.binary main_v2782 main_v2783 main_v2784 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg23 main_v2784 main_v2785 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_844 (constantI S_ 32 0#32),
    StableHlo.unary main_c_844 main_v2786 (broadcastInDim S131072 ![] bcast_S_S131072 : (⟨S_, .i32⟩ : BufTy).Contents (Elt F) → (⟨S131072, .i32⟩ : BufTy).Contents (Elt F)),
    StableHlo.binary main_v2768 main_v2786 main_v2787 (cmpi .slt : (⟨S131072, .i32⟩ : BufTy).Contents (Elt F) → (⟨S131072, .i32⟩ : BufTy).Contents (Elt F) → (⟨S131072, .i1⟩ : BufTy).Contents (Elt F)),
    StableHlo.nullary main_c_845 (constantI S_ 32 512#32),
    StableHlo.unary main_c_845 main_v2788 (broadcastInDim S131072 ![] bcast_S_S131072 : (⟨S_, .i32⟩ : BufTy).Contents (Elt F) → (⟨S131072, .i32⟩ : BufTy).Contents (Elt F)),
    StableHlo.binary main_v2768 main_v2788 main_v2789 (addi : (⟨S131072, .i32⟩ : BufTy).Contents (Elt F) → (⟨S131072, .i32⟩ : BufTy).Contents (Elt F) → (⟨S131072, .i32⟩ : BufTy).Contents (Elt F)),
    StableHlo.ternary main_v2787 main_v2789 main_v2768 main_v2790 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_846 (constantI S_ 32 0#32),
    StableHlo.unary main_c_846 main_v2791 (broadcastInDim S131072 ![] bcast_S_S131072 : (⟨S_, .i32⟩ : BufTy).Contents (Elt F) → (⟨S131072, .i32⟩ : BufTy).Contents (Elt F)),
    StableHlo.binary main_v2766 main_v2791 main_v2792 (cmpi .slt : (⟨S131072, .i32⟩ : BufTy).Contents (Elt F) → (⟨S131072, .i32⟩ : BufTy).Contents (Elt F) → (⟨S131072, .i1⟩ : BufTy).Contents (Elt F)),
    StableHlo.nullary main_c_847 (constantI S_ 32 512#32),
    StableHlo.unary main_c_847 main_v2793 (broadcastInDim S131072 ![] bcast_S_S131072 : (⟨S_, .i32⟩ : BufTy).Contents (Elt F) → (⟨S131072, .i32⟩ : BufTy).Contents (Elt F)),
    StableHlo.binary main_v2766 main_v2793 main_v2794 (addi : (⟨S131072, .i32⟩ : BufTy).Contents (Elt F) → (⟨S131072, .i32⟩ : BufTy).Contents (Elt F) → (⟨S131072, .i32⟩ : BufTy).Contents (Elt F)),
    StableHlo.ternary main_v2792 main_v2794 main_v2766 main_v2795 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2790 main_v2796 (broadcastInDim S131072x1 ![0] bcast_S131072_S131072x1_0 : (⟨S131072, .i32⟩ : BufTy).Contents (Elt F) → (⟨S131072x1, .i32⟩ : BufTy).Contents (Elt F)),
    StableHlo.unary main_v2795 main_v2797 (broadcastInDim S131072x1 ![0] bcast_S131072_S131072x1_0 : (⟨S131072, .i32⟩ : BufTy).Contents (Elt F) → (⟨S131072x1, .i32⟩ : BufTy).Contents (Elt F)),
    StableHlo.binary main_v2796 main_v2797 main_v2798 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg23 main_v2798 main_v2799 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_848 (constantI S_ 32 0#32),
    StableHlo.unary main_c_848 main_v2800 (broadcastInDim S131072 ![] bcast_S_S131072 : (⟨S_, .i32⟩ : BufTy).Contents (Elt F) → (⟨S131072, .i32⟩ : BufTy).Contents (Elt F)),
    StableHlo.binary main_v2771 main_v2800 main_v2801 (cmpi .slt : (⟨S131072, .i32⟩ : BufTy).Contents (Elt F) → (⟨S131072, .i32⟩ : BufTy).Contents (Elt F) → (⟨S131072, .i1⟩ : BufTy).Contents (Elt F)),
    StableHlo.nullary main_c_849 (constantI S_ 32 512#32),
    StableHlo.unary main_c_849 main_v2802 (broadcastInDim S131072 ![] bcast_S_S131072 : (⟨S_, .i32⟩ : BufTy).Contents (Elt F) → (⟨S131072, .i32⟩ : BufTy).Contents (Elt F)),
    StableHlo.binary main_v2771 main_v2802 main_v2803 (addi : (⟨S131072, .i32⟩ : BufTy).Contents (Elt F) → (⟨S131072, .i32⟩ : BufTy).Contents (Elt F) → (⟨S131072, .i32⟩ : BufTy).Contents (Elt F)),
    StableHlo.ternary main_v2801 main_v2803 main_v2771 main_v2804 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_850 (constantI S_ 32 0#32),
    StableHlo.unary main_c_850 main_v2805 (broadcastInDim S131072 ![] bcast_S_S131072 : (⟨S_, .i32⟩ : BufTy).Contents (Elt F) → (⟨S131072, .i32⟩ : BufTy).Contents (Elt F)),
    StableHlo.binary main_v2763 main_v2805 main_v2806 (cmpi .slt : (⟨S131072, .i32⟩ : BufTy).Contents (Elt F) → (⟨S131072, .i32⟩ : BufTy).Contents (Elt F) → (⟨S131072, .i1⟩ : BufTy).Contents (Elt F)) ]
theorem w60_eq (c : Dev nD) : main_part60 (F := F) c = seq w60 := rfl
theorem w60_sub : (w60 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
theorem w60_fresh : (w60 : List (HloOp τ sig (Elt F))).Forall fun op => op.fresh = ∅ := by
  simp only [List.Forall]; repeat' constructor
set_option maxHeartbeats 4000000 in
theorem w60_chain : Chain 4053 (w60 : List (HloOp τ sig (Elt F))) :=
  Chain.cons (stepAt_binary 4053 _ _ _ _ rfl (by decide) (by decide)) <|
  Chain.cons (stepAt_nullary 4054 _ _ rfl) <|
  Chain.cons (stepAt_nullary 4055 _ _ rfl) <|
  Chain.cons (stepAt_unary 4056 _ _ _ rfl (by decide)) <|
  Chain.cons (stepAt_unary 4057 _ _ _ rfl (by decide)) <|
  Chain.cons (stepAt_binary 4058 _ _ _ _ rfl (by decide) (by decide)) <|
  Chain.cons (stepAt_unary 4059 _ _ _ rfl (by decide)) <|
  Chain.cons (stepAt_unary 4060 _ _ _ rfl (by decide)) <|
  Chain.cons (stepAt_binary 4061 _ _ _ _ rfl (by decide) (by decide)) <|
  Chain.cons (stepAt_unary 4062 _ _ _ rfl (by decide)) <|
  Chain.cons (stepAt_nullary 4063 _ _ rfl) <|
  Chain.cons (stepAt_nullary 4064 _ _ rfl) <|
  Chain.cons (stepAt_unary 4065 _ _ _ rfl (by decide)) <|
  Chain.cons (stepAt_unary 4066 _ _ _ rfl (by decide)) <|
  Chain.cons (stepAt_binary 4067 _ _ _ _ rfl (by decide) (by decide)) <|
  Chain.cons (stepAt_unary 4068 _ _ _ rfl (by decide)) <|
  Chain.cons (stepAt_unary 4069 _ _ _ rfl (by decide)) <|
  Chain.cons (stepAt_binary 4070 _ _ _ _ rfl (by decide) (by decide)) <|
  Chain.cons (stepAt_nullary 4071 _ _ rfl) <|
  Chain.cons (stepAt_unary 4072 _ _ _ rfl (by decide)) <|
  Chain.cons (stepAt_binary 4073 _ _ _ _ rfl (by decide) (by decide)) <|
  Chain.cons (stepAt_nullary 4074 _ _ rfl) <|
  Chain.cons (stepAt_nullary 4075 _ _ rfl) <|
  Chain.cons (stepAt_unary 4076 _ _ _ rfl (by decide)) <|
  Chain.cons (stepAt_unary 4077 _ _ _ rfl (by decide)) <|
  Chain.cons (stepAt_binary 4078 _ _ _ _ rfl (by decide) (by decide)) <|
  Chain.cons (stepAt_unary 4079 _ _ _ rfl (by decide)) <|
  Chain.cons (stepAt_unary 4080 _ _ _ rfl (by decide)) <|
  Chain.cons (stepAt_binary 4081 _ _ _ _ rfl (by decide) (by decide)) <|
  Chain.cons (stepAt_nullary 4082 _ _ rfl) <|
  Chain.cons (stepAt_unary 4083 _ _ _ rfl (by decide)) <|
  Chain.cons (stepAt_binary 4084 _ _ _ _ rfl (by decide) (by decide)) <|
  Chain.cons (stepAt_nullary 4085 _ _ rfl) <|
  Chain.cons (stepAt_unary 4086 _ _ _ rfl (by decide)) <|
  Chain.cons (stepAt_binary 4087 _ _ _ _ rfl (by decide) (by decide)) <|
  Chain.cons (stepAt_ternary 4088 _ _ _ _ _ rfl (by decide) (by decide) (by decide)) <|
  Chain.cons (stepAt_nullary 4089 _ _ rfl) <|
  Chain.cons (stepAt_unary 4090 _ _ _ rfl (by decide)) <|
  Chain.cons (stepAt_binary 4091 _ _ _ _ rfl (by decide) (by decide)) <|
  Chain.cons (stepAt_nullary 4092 _ _ rfl) <|
  Chain.cons (stepAt_unary 4093 _ _ _ rfl (by decide)) <|
  Chain.cons (stepAt_binary 4094 _ _ _ _ rfl (by decide) (by decide)) <|
  Chain.cons (stepAt_ternary 4095 _ _ _ _ _ rfl (by decide) (by decide) (by decide)) <|
  Chain.cons (stepAt_unary 4096 _ _ _ rfl (by decide)) <|
  Chain.cons (stepAt_unary 4097 _ _ _ rfl (by decide)) <|
  Chain.cons (stepAt_binary 4098 _ _ _ _ rfl (by decide) (by decide)) <|
  Chain.cons (stepAt_binary 4099 _ _ _ _ rfl (by decide) (by decide)) <|
  Chain.cons (stepAt_nullary 4100 _ _ rfl) <|
  Chain.cons (stepAt_unary 4101 _ _ _ rfl (by decide)) <|
  Chain.cons (stepAt_binary 4102 _ _ _ _ rfl (by decide) (by decide)) <|
  Chain.cons (stepAt_nullary 4103 _ _ rfl) <|
  Chain.cons (stepAt_unary 4104 _ _ _ rfl (by decide)) <|
  Chain.cons (stepAt_binary 4105 _ _ _ _ rfl (by decide) (by decide)) <|
  Chain.cons (stepAt_ternary 4106 _ _ _ _ _ rfl (by decide) (by decide) (by decide)) <|
  Chain.cons (stepAt_nullary 4107 _ _ rfl) <|
  Chain.cons (stepAt_unary 4108 _ _ _ rfl (by decide)) <|
  Chain.cons (stepAt_binary 4109 _ _ _ _ rfl (by decide) (by decide)) <|
  Chain.cons (stepAt_nullary 4110 _ _ rfl) <|
  Chain.cons (stepAt_unary 4111 _ _ _ rfl (by decide)) <|
  Chain.cons (stepAt_binary 4112 _ _ _ _ rfl (by decide) (by decide)) <|
  Chain.cons (stepAt_ternary 4113 _ _ _ _ _ rfl (by decide) (by decide) (by decide)) <|
  Chain.cons (stepAt_unary 4114 _ _ _ rfl (by decide)) <|
  Chain.cons (stepAt_unary 4115 _ _ _ rfl (by decide)) <|
  Chain.cons (stepAt_binary 4116 _ _ _ _ rfl (by decide) (by decide)) <|
  Chain.cons (stepAt_binary 4117 _ _ _ _ rfl (by decide) (by decide)) <|
  Chain.cons (stepAt_nullary 4118 _ _ rfl) <|
  Chain.cons (stepAt_unary 4119 _ _ _ rfl (by decide)) <|
  Chain.cons (stepAt_binary 4120 _ _ _ _ rfl (by decide) (by decide)) <|
  Chain.cons (stepAt_nullary 4121 _ _ rfl) <|
  Chain.cons (stepAt_unary 4122 _ _ _ rfl (by decide)) <|
  Chain.cons (stepAt_binary 4123 _ _ _ _ rfl (by decide) (by decide)) <|
  Chain.cons (stepAt_ternary 4124 _ _ _ _ _ rfl (by decide) (by decide) (by decide)) <|
  Chain.cons (stepAt_nullary 4125 _ _ rfl) <|
  Chain.cons (stepAt_unary 4126 _ _ _ rfl (by decide)) <|
  Chain.cons (stepAt_binary 4127 _ _ _ _ rfl (by decide) (by decide)) <|
  Chain.nil
theorem w60_length : (w60 : List (HloOp τ sig (Elt F))).length = 75 := rfl

/-- Window 61 of @main: 60 operations, writing buffers 4128 … 4187. -/
abbrev w61 : List (HloOp τ sig (Elt F)) :=
  [ StableHlo.nullary main_c_851 (constantI S_ 32 512#32),
    StableHlo.unary main_c_851 main_v2807 (broadcastInDim S131072 ![] bcast_S_S131072 : (⟨S_, .i32⟩ : BufTy).Contents (Elt F) → (⟨S131072, .i32⟩ : BufTy).Contents (Elt F)),
    StableHlo.binary main_v2763 main_v2807 main_v2808 (addi : (⟨S131072, .i32⟩ : BufTy).Contents (Elt F) → (⟨S131072, .i32⟩ : BufTy).Contents (Elt F) → (⟨S131072, .i32⟩ : BufTy).Contents (Elt F)),
    StableHlo.ternary main_v2806 main_v2808 main_v2763 main_v2809 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2804 main_v2810 (broadcastInDim S131072x1 ![0] bcast_S131072_S131072x1_0 : (⟨S131072, .i32⟩ : BufTy).Contents (Elt F) → (⟨S131072x1, .i32⟩ : BufTy).Contents (Elt F)),
    StableHlo.unary main_v2809 main_v2811 (broadcastInDim S131072x1 ![0] bcast_S131072_S131072x1_0 : (⟨S131072, .i32⟩ : BufTy).Contents (Elt F) → (⟨S131072x1, .i32⟩ : BufTy).Contents (Elt F)),
    StableHlo.binary main_v2810 main_v2811 main_v2812 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg23 main_v2812 main_v2813 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_c_852 (constantI S_ 32 0#32),
    StableHlo.unary main_c_852 main_v2814 (broadcastInDim S131072 ![] bcast_S_S131072 : (⟨S_, .i32⟩ : BufTy).Contents (Elt F) → (⟨S131072, .i32⟩ : BufTy).Contents (Elt F)),
    StableHlo.binary main_v2771 main_v2814 main_v2815 (cmpi .slt : (⟨S131072, .i32⟩ : BufTy).Contents (Elt F) → (⟨S131072, .i32⟩ : BufTy).Contents (Elt F) → (⟨S131072, .i1⟩ : BufTy).Contents (Elt F)),
    StableHlo.nullary main_c_853 (constantI S_ 32 512#32),
    StableHlo.unary main_c_853 main_v2816 (broadcastInDim S131072 ![] bcast_S_S131072 : (⟨S_, .i32⟩ : BufTy).Contents (Elt F) → (⟨S131072, .i32⟩ : BufTy).Contents (Elt F)),
    StableHlo.binary main_v2771 main_v2816 main_v2817 (addi : (⟨S131072, .i32⟩ : BufTy).Contents (Elt F) → (⟨S131072, .i32⟩ : BufTy).Contents (Elt F) → (⟨S131072, .i32⟩ : BufTy).Contents (Elt F)),
    StableHlo.ternary main_v2815 main_v2817 main_v2771 main_v2818 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_854 (constantI S_ 32 0#32),
    StableHlo.unary main_c_854 main_v2819 (broadcastInDim S131072 ![] bcast_S_S131072 : (⟨S_, .i32⟩ : BufTy).Contents (Elt F) → (⟨S131072, .i32⟩ : BufTy).Contents (Elt F)),
    StableHlo.binary main_v2766 main_v2819 main_v2820 (cmpi .slt : (⟨S131072, .i32⟩ : BufTy).Contents (Elt F) → (⟨S131072, .i32⟩ : BufTy).Contents (Elt F) → (⟨S131072, .i1⟩ : BufTy).Contents (Elt F)),
    StableHlo.nullary main_c_855 (constantI S_ 32 512#32),
    StableHlo.unary main_c_855 main_v2821 (broadcastInDim S131072 ![] bcast_S_S131072 : (⟨S_, .i32⟩ : BufTy).Contents (Elt F) → (⟨S131072, .i32⟩ : BufTy).Contents (Elt F)),
    StableHlo.binary main_v2766 main_v2821 main_v2822 (addi : (⟨S131072, .i32⟩ : BufTy).Contents (Elt F) → (⟨S131072, .i32⟩ : BufTy).Contents (Elt F) → (⟨S131072, .i32⟩ : BufTy).Contents (Elt F)),
    StableHlo.ternary main_v2820 main_v2822 main_v2766 main_v2823 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2818 main_v2824 (broadcastInDim S131072x1 ![0] bcast_S131072_S131072x1_0 : (⟨S131072, .i32⟩ : BufTy).Contents (Elt F) → (⟨S131072x1, .i32⟩ : BufTy).Contents (Elt F)),
    StableHlo.unary main_v2823 main_v2825 (broadcastInDim S131072x1 ![0] bcast_S131072_S131072x1_0 : (⟨S131072, .i32⟩ : BufTy).Contents (Elt F) → (⟨S131072x1, .i32⟩ : BufTy).Contents (Elt F)),
    StableHlo.binary main_v2824 main_v2825 main_v2826 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg23 main_v2826 main_v2827 ((fun x i => Host.gather gather_S32x512x512_S131072x2_S32x131072_0_12_n_n_12_1_3211 x i) : (⟨S32x512x512, .f32⟩ : BufTy).Contents (Elt F) → (⟨S131072x2, .i32⟩ : BufTy).Contents (Elt F) → (⟨S32x131072, .f32⟩ : BufTy).Contents (Elt F)),
    StableHlo.nullary main_cst_856 (constant S_ .f32 0x3F800000#32),
    StableHlo.unary main_cst_856 main_v2828 (broadcastInDim S131072 ![] bcast_S_S131072 : (⟨S_, .f32⟩ : BufTy).Contents (Elt F) → (⟨S131072, .f32⟩ : BufTy).Contents (Elt F)),
    StableHlo.binary main_v2828 main_v2760 main_v2829 (subf : (⟨S131072, .f32⟩ : BufTy).Contents (Elt F) → (⟨S131072, .f32⟩ : BufTy).Contents (Elt F) → (⟨S131072, .f32⟩ : BufTy).Contents (Elt F)),
    StableHlo.unary main_v2829 main_v2830 (broadcastInDim S1x131072 ![1] bcast_S131072_S1x131072_1 : (⟨S131072, .f32⟩ : BufTy).Contents (Elt F) → (⟨S1x131072, .f32⟩ : BufTy).Contents (Elt F)),
    StableHlo.unary main_v2830 main_v2831 (broadcastInDim S32x131072 ![0, 1] bcast_S1x131072_S32x131072_0_1 : (⟨S1x131072, .f32⟩ : BufTy).Contents (Elt F) → (⟨S32x131072, .f32⟩ : BufTy).Contents (Elt F)),
    StableHlo.binary main_v2785 main_v2831 main_v2832 (mulf : (⟨S32x131072, .f32⟩ : BufTy).Contents (Elt F) → (⟨S32x131072, .f32⟩ : BufTy).Contents (Elt F) → (⟨S32x131072, .f32⟩ : BufTy).Contents (Elt F)),
    StableHlo.nullary main_cst_857 (constant S_ .f32 0x3F800000#32),
    StableHlo.unary main_cst_857 main_v2833 (broadcastInDim S131072 ![] bcast_S_S131072 : (⟨S_, .f32⟩ : BufTy).Contents (Elt F) → (⟨S131072, .f32⟩ : BufTy).Contents (Elt F)),
    StableHlo.binary main_v2833 main_v2761 main_v2834 (subf : (⟨S131072, .f32⟩ : BufTy).Contents (Elt F) → (⟨S131072, .f32⟩ : BufTy).Contents (Elt F) → (⟨S131072, .f32⟩ : BufTy).Contents (Elt F)),
    StableHlo.unary main_v2834 main_v2835 (broadcastInDim S1x131072 ![1] bcast_S131072_S1x131072_1 : (⟨S131072, .f32⟩ : BufTy).Contents (Elt F) → (⟨S1x131072, .f32⟩ : BufTy).Contents (Elt F)),
    StableHlo.unary main_v2835 main_v2836 (broadcastInDim S32x131072 ![0, 1] bcast_S1x131072_S32x131072_0_1 : (⟨S1x131072, .f32⟩ : BufTy).Contents (Elt F) → (⟨S32x131072, .f32⟩ : BufTy).Contents (Elt F)),
    StableHlo.binary main_v2832 main_v2836 main_v2837 (mulf : (⟨S32x131072, .f32⟩ : BufTy).Contents (Elt F) → (⟨S32x131072, .f32⟩ : BufTy).Contents (Elt F) → (⟨S32x131072, .f32⟩ : BufTy).Contents (Elt F)),
    StableHlo.unary main_v2760 main_v2838 (broadcastInDim S1x131072 ![1] bcast_S131072_S1x131072_1 : (⟨S131072, .f32⟩ : BufTy).Contents (Elt F) → (⟨S1x131072, .f32⟩ : BufTy).Contents (Elt F)),
    StableHlo.unary main_v2838 main_v2839 (broadcastInDim S32x131072 ![0, 1] bcast_S1x131072_S32x131072_0_1 : (⟨S1x131072, .f32⟩ : BufTy).Contents (Elt F) → (⟨S32x131072, .f32⟩ : BufTy).Contents (Elt F)),
    StableHlo.binary main_v2799 main_v2839 main_v2840 (mulf : (⟨S32x131072, .f32⟩ : BufTy).Contents (Elt F) → (⟨S32x131072, .f32⟩ : BufTy).Contents (Elt F) → (⟨S32x131072, .f32⟩ : BufTy).Contents (Elt F)),
    StableHlo.nullary main_cst_858 (constant S_ .f32 0x3F800000#32),
    StableHlo.unary main_cst_858 main_v2841 (broadcastInDim S131072 ![] bcast_S_S131072 : (⟨S_, .f32⟩ : BufTy).Contents (Elt F) → (⟨S131072, .f32⟩ : BufTy).Contents (Elt F)),
    StableHlo.binary main_v2841 main_v2761 main_v2842 (subf : (⟨S131072, .f32⟩ : BufTy).Contents (Elt F) → (⟨S131072, .f32⟩ : BufTy).Contents (Elt F) → (⟨S131072, .f32⟩ : BufTy).Contents (Elt F)),
    StableHlo.unary main_v2842 main_v2843 (broadcastInDim S1x131072 ![1] bcast_S131072_S1x131072_1 : (⟨S131072, .f32⟩ : BufTy).Contents (Elt F) → (⟨S1x131072, .f32⟩ : BufTy).Contents (Elt F)),
    StableHlo.unary main_v2843 main_v2844 (broadcastInDim S32x131072 ![0, 1] bcast_S1x131072_S32x131072_0_1 : (⟨S1x131072, .f32⟩ : BufTy).Contents (Elt F) → (⟨S32x131072, .f32⟩ : BufTy).Contents (Elt F)),
    StableHlo.binary main_v2840 main_v2844 main_v2845 (mulf : (⟨S32x131072, .f32⟩ : BufTy).Contents (Elt F) → (⟨S32x131072, .f32⟩ : BufTy).Contents (Elt F) → (⟨S32x131072, .f32⟩ : BufTy).Contents (Elt F)),
    StableHlo.binary main_v2837 main_v2845 main_v2846 (addf : (⟨S32x131072, .f32⟩ : BufTy).Contents (Elt F) → (⟨S32x131072, .f32⟩ : BufTy).Contents (Elt F) → (⟨S32x131072, .f32⟩ : BufTy).Contents (Elt F)),
    StableHlo.nullary main_cst_859 (constant S_ .f32 0x3F800000#32),
    StableHlo.unary main_cst_859 main_v2847 (broadcastInDim S131072 ![] bcast_S_S131072 : (⟨S_, .f32⟩ : BufTy).Contents (Elt F) → (⟨S131072, .f32⟩ : BufTy).Contents (Elt F)),
    StableHlo.binary main_v2847 main_v2760 main_v2848 (subf : (⟨S131072, .f32⟩ : BufTy).Contents (Elt F) → (⟨S131072, .f32⟩ : BufTy).Contents (Elt F) → (⟨S131072, .f32⟩ : BufTy).Contents (Elt F)),
    StableHlo.unary main_v2848 main_v2849 (broadcastInDim S1x131072 ![1] bcast_S131072_S1x131072_1 : (⟨S131072, .f32⟩ : BufTy).Contents (Elt F) → (⟨S1x131072, .f32⟩ : BufTy).Contents (Elt F)),
    StableHlo.unary main_v2849 main_v2850 (broadcastInDim S32x131072 ![0, 1] bcast_S1x131072_S32x131072_0_1 : (⟨S1x131072, .f32⟩ : BufTy).Contents (Elt F) → (⟨S32x131072, .f32⟩ : BufTy).Contents (Elt F)),
    StableHlo.binary main_v2813 main_v2850 main_v2851 (mulf : (⟨S32x131072, .f32⟩ : BufTy).Contents (Elt F) → (⟨S32x131072, .f32⟩ : BufTy).Contents (Elt F) → (⟨S32x131072, .f32⟩ : BufTy).Contents (Elt F)),
    StableHlo.unary main_v2761 main_v2852 (broadcastInDim S1x131072 ![1] bcast_S131072_S1x131072_1 : (⟨S131072, .f32⟩ : BufTy).Contents (Elt F) → (⟨S1x131072, .f32⟩ : BufTy).Contents (Elt F)),
    StableHlo.unary main_v2852 main_v2853 (broadcastInDim S32x131072 ![0, 1] bcast_S1x131072_S32x131072_0_1 : (⟨S1x131072, .f32⟩ : BufTy).Contents (Elt F) → (⟨S32x131072, .f32⟩ : BufTy).Contents (Elt F)),
    StableHlo.binary main_v2851 main_v2853 main_v2854 (mulf : (⟨S32x131072, .f32⟩ : BufTy).Contents (Elt F) → (⟨S32x131072, .f32⟩ : BufTy).Contents (Elt F) → (⟨S32x131072, .f32⟩ : BufTy).Contents (Elt F)),
    StableHlo.binary main_v2846 main_v2854 main_v2855 (addf : (⟨S32x131072, .f32⟩ : BufTy).Contents (Elt F) → (⟨S32x131072, .f32⟩ : BufTy).Contents (Elt F) → (⟨S32x131072, .f32⟩ : BufTy).Contents (Elt F)),
    StableHlo.unary main_v2760 main_v2856 (broadcastInDim S1x131072 ![1] bcast_S131072_S1x131072_1 : (⟨S131072, .f32⟩ : BufTy).Contents (Elt F) → (⟨S1x131072, .f32⟩ : BufTy).Contents (Elt F)),
    StableHlo.unary main_v2856 main_v2857 (broadcastInDim S32x131072 ![0, 1] bcast_S1x131072_S32x131072_0_1 : (⟨S1x131072, .f32⟩ : BufTy).Contents (Elt F) → (⟨S32x131072, .f32⟩ : BufTy).Contents (Elt F)) ]
theorem w61_eq (c : Dev nD) : main_part61 (F := F) c = seq w61 := rfl
theorem w61_sub : (w61 : List (HloOp τ sig (Elt F))).Forall fun op => op.bufs ⊆ tcRefs τ sig :=
  ⟨nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub ..⟩
theorem w61_fresh : (w61 : List (HloOp τ sig (Elt F))).Forall fun op => op.fresh = ∅ := by
  simp only [List.Forall]; repeat' constructor
set_option maxHeartbeats 4000000 in
theorem w61_chain : Chain 4128 (w61 : List (HloOp τ sig (Elt F))) :=
  Chain.cons (stepAt_nullary 4128 _ _ rfl) <|
  Chain.cons (stepAt_unary 4129 _ _ _ rfl (by decide)) <|
  Chain.cons (stepAt_binary 4130 _ _ _ _ rfl (by decide) (by decide)) <|
  Chain.cons (stepAt_ternary 4131 _ _ _ _ _ rfl (by decide) (by decide) (by decide)) <|
  Chain.cons (stepAt_unary 4132 _ _ _ rfl (by decide)) <|
  Chain.cons (stepAt_unary 4133 _ _ _ rfl (by decide)) <|
  Chain.cons (stepAt_binary 4134 _ _ _ _ rfl (by decide) (by decide)) <|
  Chain.cons (stepAt_binary 4135 _ _ _ _ rfl (by decide) (by decide)) <|
  Chain.cons (stepAt_nullary 4136 _ _ rfl) <|
  Chain.cons (stepAt_unary 4137 _ _ _ rfl (by decide)) <|
  Chain.cons (stepAt_binary 4138 _ _ _ _ rfl (by decide) (by decide)) <|
  Chain.cons (stepAt_nullary 4139 _ _ rfl) <|
  Chain.cons (stepAt_unary 4140 _ _ _ rfl (by decide)) <|
  Chain.cons (stepAt_binary 4141 _ _ _ _ rfl (by decide) (by decide)) <|
  Chain.cons (stepAt_ternary 4142 _ _ _ _ _ rfl (by decide) (by decide) (by decide)) <|
  Chain.cons (stepAt_nullary 4143 _ _ rfl) <|
  Chain.cons (stepAt_unary 4144 _ _ _ rfl (by decide)) <|
  Chain.cons (stepAt_binary 4145 _ _ _ _ rfl (by decide) (by decide)) <|
  Chain.cons (stepAt_nullary 4146 _ _ rfl) <|
  Chain.cons (stepAt_unary 4147 _ _ _ rfl (by decide)) <|
  Chain.cons (stepAt_binary 4148 _ _ _ _ rfl (by decide) (by decide)) <|
  Chain.cons (stepAt_ternary 4149 _ _ _ _ _ rfl (by decide) (by decide) (by decide)) <|
  Chain.cons (stepAt_unary 4150 _ _ _ rfl (by decide)) <|
  Chain.cons (stepAt_unary 4151 _ _ _ rfl (by decide)) <|
  Chain.cons (stepAt_binary 4152 _ _ _ _ rfl (by decide) (by decide)) <|
  Chain.cons (stepAt_binary 4153 _ _ _ _ rfl (by decide) (by decide)) <|
  Chain.cons (stepAt_nullary 4154 _ _ rfl) <|
  Chain.cons (stepAt_unary 4155 _ _ _ rfl (by decide)) <|
  Chain.cons (stepAt_binary 4156 _ _ _ _ rfl (by decide) (by decide)) <|
  Chain.cons (stepAt_unary 4157 _ _ _ rfl (by decide)) <|
  Chain.cons (stepAt_unary 4158 _ _ _ rfl (by decide)) <|
  Chain.cons (stepAt_binary 4159 _ _ _ _ rfl (by decide) (by decide)) <|
  Chain.cons (stepAt_nullary 4160 _ _ rfl) <|
  Chain.cons (stepAt_unary 4161 _ _ _ rfl (by decide)) <|
  Chain.cons (stepAt_binary 4162 _ _ _ _ rfl (by decide) (by decide)) <|
  Chain.cons (stepAt_unary 4163 _ _ _ rfl (by decide)) <|
  Chain.cons (stepAt_unary 4164 _ _ _ rfl (by decide)) <|
  Chain.cons (stepAt_binary 4165 _ _ _ _ rfl (by decide) (by decide)) <|
  Chain.cons (stepAt_unary 4166 _ _ _ rfl (by decide)) <|
  Chain.cons (stepAt_unary 4167 _ _ _ rfl (by decide)) <|
  Chain.cons (stepAt_binary 4168 _ _ _ _ rfl (by decide) (by decide)) <|
  Chain.cons (stepAt_nullary 4169 _ _ rfl) <|
  Chain.cons (stepAt_unary 4170 _ _ _ rfl (by decide)) <|
  Chain.cons (stepAt_binary 4171 _ _ _ _ rfl (by decide) (by decide)) <|
  Chain.cons (stepAt_unary 4172 _ _ _ rfl (by decide)) <|
  Chain.cons (stepAt_unary 4173 _ _ _ rfl (by decide)) <|
  Chain.cons (stepAt_binary 4174 _ _ _ _ rfl (by decide) (by decide)) <|
  Chain.cons (stepAt_binary 4175 _ _ _ _ rfl (by decide) (by decide)) <|
  Chain.cons (stepAt_nullary 4176 _ _ rfl) <|
  Chain.cons (stepAt_unary 4177 _ _ _ rfl (by decide)) <|
  Chain.cons (stepAt_binary 4178 _ _ _ _ rfl (by decide) (by decide)) <|
  Chain.cons (stepAt_unary 4179 _ _ _ rfl (by decide)) <|
  Chain.cons (stepAt_unary 4180 _ _ _ rfl (by decide)) <|
  Chain.cons (stepAt_binary 4181 _ _ _ _ rfl (by decide) (by decide)) <|
  Chain.cons (stepAt_unary 4182 _ _ _ rfl (by decide)) <|
  Chain.cons (stepAt_unary 4183 _ _ _ rfl (by decide)) <|
  Chain.cons (stepAt_binary 4184 _ _ _ _ rfl (by decide) (by decide)) <|
  Chain.cons (stepAt_binary 4185 _ _ _ _ rfl (by decide) (by decide)) <|
  Chain.cons (stepAt_unary 4186 _ _ _ rfl (by decide)) <|
  Chain.cons (stepAt_unary 4187 _ _ _ rfl (by decide)) <|
  Chain.nil
theorem w61_length : (w61 : List (HloOp τ sig (Elt F))).length = 60 := rfl

/-- Window 62 of @main: 75 operations, writing buffers 4188 … 4262. -/
abbrev w62 : List (HloOp τ sig (Elt F)) :=
  [ StableHlo.binary main_v2827 main_v2857 main_v2858 (mulf : (⟨S32x131072, .f32⟩ : BufTy).Contents (Elt F) → (⟨S32x131072, .f32⟩ : BufTy).Contents (Elt F) → (⟨S32x131072, .f32⟩ : BufTy).Contents (Elt F)),
    StableHlo.unary main_v2761 main_v2859 (broadcastInDim S1x131072 ![1] bcast_S131072_S1x131072_1 : (⟨S131072, .f32⟩ : BufTy).Contents (Elt F) → (⟨S1x131072, .f32⟩ : BufTy).Contents (Elt F)),
    StableHlo.unary main_v2859 main_v2860 (broadcastInDim S32x131072 ![0, 1] bcast_S1x131072_S32x131072_0_1 : (⟨S1x131072, .f32⟩ : BufTy).Contents (Elt F) → (⟨S32x131072, .f32⟩ : BufTy).Contents (Elt F)),
    StableHlo.binary main_v2858 main_v2860 main_v2861 (mulf : (⟨S32x131072, .f32⟩ : BufTy).Contents (Elt F) → (⟨S32x131072, .f32⟩ : BufTy).Contents (Elt F) → (⟨S32x131072, .f32⟩ : BufTy).Contents (Elt F)),
    StableHlo.binary main_v2855 main_v2861 main_v2862 (addf : (⟨S32x131072, .f32⟩ : BufTy).Contents (Elt F) → (⟨S32x131072, .f32⟩ : BufTy).Contents (Elt F) → (⟨S32x131072, .f32⟩ : BufTy).Contents (Elt F)),
    StableHlo.unary main_v2862 main_v2863 ((transpose S131072x32 [1, 0] · transposes_S32x131072_S131072x32_1_0) : (⟨S32x131072, .f32⟩ : BufTy).Contents (Elt F) → (⟨S131072x32, .f32⟩ : BufTy).Contents (Elt F)),
    StableHlo.binary main_v2734 main_v2863 main_v2864 (mulf : (⟨S131072x32, .f32⟩ : BufTy).Contents (Elt F) → (⟨S131072x32, .f32⟩ : BufTy).Contents (Elt F) → (⟨S131072x32, .f32⟩ : BufTy).Contents (Elt F)),
    StableHlo.nullary main_c_860 (constantI S_ 32 0#32),
    StableHlo.unary main_c_860 main_v2865 (broadcastInDim S2 ![] bcast_S_S2 : (⟨S_, .i32⟩ : BufTy).Contents (Elt F) → (⟨S2, .i32⟩ : BufTy).Contents (Elt F)),
    StableHlo.binary main_c_21 main_v2865 main_v2866 (cmpi .slt : (⟨S2, .i32⟩ : BufTy).Contents (Elt F) → (⟨S2, .i32⟩ : BufTy).Contents (Elt F) → (⟨S2, .i1⟩ : BufTy).Contents (Elt F)),
    StableHlo.nullary main_c_861 (constantI S_ 32 4#32),
    StableHlo.unary main_c_861 main_v2867 (broadcastInDim S2 ![] bcast_S_S2 : (⟨S_, .i32⟩ : BufTy).Contents (Elt F) → (⟨S2, .i32⟩ : BufTy).Contents (Elt F)),
    StableHlo.binary main_c_21 main_v2867 main_v2868 (addi : (⟨S2, .i32⟩ : BufTy).Contents (Elt F) → (⟨S2, .i32⟩ : BufTy).Contents (Elt F) → (⟨S2, .i32⟩ : BufTy).Contents (Elt F)),
    StableHlo.ternary main_v2866 main_v2868 main_c_21 main_v2869 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2869 main_v2870 (broadcastInDim S2x1 ![0] bcast_S2_S2x1_0 : (⟨S2, .i32⟩ : BufTy).Contents (Elt F) → (⟨S2x1, .i32⟩ : BufTy).Contents (Elt F)),
    StableHlo.binary main_v8 main_v2870 main_v2871 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v2871 main_v2872 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v2872 main_v2873 rfl shapeCasts_S131072x1_S131072,
    StableHlo.nullary main_cst_862 (constant S_ .f32 0x3F800000#32),
    StableHlo.unary main_cst_862 main_v2874 (broadcastInDim S131072 ![] bcast_S_S131072 : (⟨S_, .f32⟩ : BufTy).Contents (Elt F) → (⟨S131072, .f32⟩ : BufTy).Contents (Elt F)),
    StableHlo.binary main_v2873 main_v2874 main_v2875 (addf : (⟨S131072, .f32⟩ : BufTy).Contents (Elt F) → (⟨S131072, .f32⟩ : BufTy).Contents (Elt F) → (⟨S131072, .f32⟩ : BufTy).Contents (Elt F)),
    StableHlo.nullary main_cst_863 (constant S_ .f32 0x3F000000#32),
    StableHlo.unary main_cst_863 main_v2876 (broadcastInDim S131072 ![] bcast_S_S131072 : (⟨S_, .f32⟩ : BufTy).Contents (Elt F) → (⟨S131072, .f32⟩ : BufTy).Contents (Elt F)),
    StableHlo.binary main_v2875 main_v2876 main_v2877 (mulf : (⟨S131072, .f32⟩ : BufTy).Contents (Elt F) → (⟨S131072, .f32⟩ : BufTy).Contents (Elt F) → (⟨S131072, .f32⟩ : BufTy).Contents (Elt F)),
    StableHlo.nullary main_cst_864 (constant S_ .f32 0x43FF8000#32),
    StableHlo.unary main_cst_864 main_v2878 (broadcastInDim S131072 ![] bcast_S_S131072 : (⟨S_, .f32⟩ : BufTy).Contents (Elt F) → (⟨S131072, .f32⟩ : BufTy).Contents (Elt F)),
    StableHlo.binary main_v2877 main_v2878 main_v2879 (mulf : (⟨S131072, .f32⟩ : BufTy).Contents (Elt F) → (⟨S131072, .f32⟩ : BufTy).Contents (Elt F) → (⟨S131072, .f32⟩ : BufTy).Contents (Elt F)),
    StableHlo.unary main_v2871 main_v2880 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v2880 main_v2881 rfl shapeCasts_S131072x1_S131072,
    StableHlo.nullary main_cst_865 (constant S_ .f32 0x3F800000#32),
    StableHlo.unary main_cst_865 main_v2882 (broadcastInDim S131072 ![] bcast_S_S131072 : (⟨S_, .f32⟩ : BufTy).Contents (Elt F) → (⟨S131072, .f32⟩ : BufTy).Contents (Elt F)),
    StableHlo.binary main_v2881 main_v2882 main_v2883 (addf : (⟨S131072, .f32⟩ : BufTy).Contents (Elt F) → (⟨S131072, .f32⟩ : BufTy).Contents (Elt F) → (⟨S131072, .f32⟩ : BufTy).Contents (Elt F)),
    StableHlo.nullary main_cst_866 (constant S_ .f32 0x3F000000#32),
    StableHlo.unary main_cst_866 main_v2884 (broadcastInDim S131072 ![] bcast_S_S131072 : (⟨S_, .f32⟩ : BufTy).Contents (Elt F) → (⟨S131072, .f32⟩ : BufTy).Contents (Elt F)),
    StableHlo.binary main_v2883 main_v2884 main_v2885 (mulf : (⟨S131072, .f32⟩ : BufTy).Contents (Elt F) → (⟨S131072, .f32⟩ : BufTy).Contents (Elt F) → (⟨S131072, .f32⟩ : BufTy).Contents (Elt F)),
    StableHlo.nullary main_cst_867 (constant S_ .f32 0x43150000#32),
    StableHlo.unary main_cst_867 main_v2886 (broadcastInDim S131072 ![] bcast_S_S131072 : (⟨S_, .f32⟩ : BufTy).Contents (Elt F) → (⟨S131072, .f32⟩ : BufTy).Contents (Elt F)),
    StableHlo.binary main_v2885 main_v2886 main_v2887 (mulf : (⟨S131072, .f32⟩ : BufTy).Contents (Elt F) → (⟨S131072, .f32⟩ : BufTy).Contents (Elt F) → (⟨S131072, .f32⟩ : BufTy).Contents (Elt F)),
    StableHlo.unary main_v2879 main_v2888 (Host.floor : (⟨S131072, .f32⟩ : BufTy).Contents (Elt F) → (⟨S131072, .f32⟩ : BufTy).Contents (Elt F)),
    StableHlo.unary main_v2887 main_v2889 (Host.floor : (⟨S131072, .f32⟩ : BufTy).Contents (Elt F) → (⟨S131072, .f32⟩ : BufTy).Contents (Elt F)),
    StableHlo.binary main_v2879 main_v2888 main_v2890 (subf : (⟨S131072, .f32⟩ : BufTy).Contents (Elt F) → (⟨S131072, .f32⟩ : BufTy).Contents (Elt F) → (⟨S131072, .f32⟩ : BufTy).Contents (Elt F)),
    StableHlo.binary main_v2887 main_v2889 main_v2891 (subf : (⟨S131072, .f32⟩ : BufTy).Contents (Elt F) → (⟨S131072, .f32⟩ : BufTy).Contents (Elt F) → (⟨S131072, .f32⟩ : BufTy).Contents (Elt F)),
    StableHlo.unary main_v2888 main_v2892 (fptosi 32 : (⟨S131072, .f32⟩ : BufTy).Contents (Elt F) → (⟨S131072, .i32⟩ : BufTy).Contents (Elt F)),
    StableHlo.nullary main_c_868 (constantI S_ 32 0#32),
    StableHlo.nullary main_c_869 (constantI S_ 32 511#32),
    StableHlo.TRef.unary (.of main_c_868) main_call88.v0 id,
    StableHlo.TRef.unary main_call88.v0 main_call88.v1 (broadcastInDim S131072 ![] bcast_S_S131072),
    StableHlo.TRef.binary main_call88.v1 (.of main_v2892) main_call88.v2 maxsi,
    StableHlo.TRef.unary (.of main_c_869) main_call88.v3 id,
    StableHlo.TRef.unary main_call88.v3 main_call88.v4 (broadcastInDim S131072 ![] bcast_S_S131072),
    StableHlo.TRef.binary main_call88.v4 main_call88.v2 main_call88.v5 minsi,
    StableHlo.nullary main_c_870 (constantI S_ 32 1#32),
    StableHlo.unary main_c_870 main_v2894 (broadcastInDim S131072 ![] bcast_S_S131072 : (⟨S_, .i32⟩ : BufTy).Contents (Elt F) → (⟨S131072, .i32⟩ : BufTy).Contents (Elt F)),
    StableHlo.binary main_v2893 main_v2894 main_v2895 (addi : (⟨S131072, .i32⟩ : BufTy).Contents (Elt F) → (⟨S131072, .i32⟩ : BufTy).Contents (Elt F) → (⟨S131072, .i32⟩ : BufTy).Contents (Elt F)),
    StableHlo.nullary main_c_871 (constantI S_ 32 0#32),
    StableHlo.nullary main_c_872 (constantI S_ 32 511#32),
    StableHlo.TRef.unary (.of main_c_871) main_call89.v0 id,
    StableHlo.TRef.unary main_call89.v0 main_call89.v1 (broadcastInDim S131072 ![] bcast_S_S131072),
    StableHlo.TRef.binary main_call89.v1 (.of main_v2895) main_call89.v2 maxsi,
    StableHlo.TRef.unary (.of main_c_872) main_call89.v3 id,
    StableHlo.TRef.unary main_call89.v3 main_call89.v4 (broadcastInDim S131072 ![] bcast_S_S131072),
    StableHlo.TRef.binary main_call89.v4 main_call89.v2 main_call89.v5 minsi,
    StableHlo.unary main_v2889 main_v2897 (fptosi 32 : (⟨S131072, .f32⟩ : BufTy).Contents (Elt F) → (⟨S131072, .i32⟩ : BufTy).Contents (Elt F)),
    StableHlo.nullary main_c_873 (constantI S_ 32 0#32),
    StableHlo.nullary main_c_874 (constantI S_ 32 149#32),
    StableHlo.TRef.unary (.of main_c_873) main_call90.v0 id,
    StableHlo.TRef.unary main_call90.v0 main_call90.v1 (broadcastInDim S131072 ![] bcast_S_S131072),
    StableHlo.TRef.binary main_call90.v1 (.of main_v2897) main_call90.v2 maxsi,
    StableHlo.TRef.unary (.of main_c_874) main_call90.v3 id,
    StableHlo.TRef.unary main_call90.v3 main_call90.v4 (broadcastInDim S131072 ![] bcast_S_S131072),
    StableHlo.TRef.binary main_call90.v4 main_call90.v2 main_call90.v5 minsi,
    StableHlo.nullary main_c_875 (constantI S_ 32 1#32),
    StableHlo.unary main_c_875 main_v2899 (broadcastInDim S131072 ![] bcast_S_S131072 : (⟨S_, .i32⟩ : BufTy).Contents (Elt F) → (⟨S131072, .i32⟩ : BufTy).Contents (Elt F)),
    StableHlo.binary main_v2898 main_v2899 main_v2900 (addi : (⟨S131072, .i32⟩ : BufTy).Contents (Elt F) → (⟨S131072, .i32⟩ : BufTy).Contents (Elt F) → (⟨S131072, .i32⟩ : BufTy).Contents (Elt F)),
    StableHlo.nullary main_c_876 (constantI S_ 32 0#32) ]
theorem w62_eq (c : Dev nD) : main_part62 (F := F) c = seq w62 := rfl
theorem w62_sub : (w62 : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub ..⟩
theorem w62_fresh : (w62 : List (HloOp τ sig (Elt F))).Forall fun op => op.fresh = ∅ := by
  simp only [List.Forall]; repeat' constructor
set_option maxHeartbeats 4000000 in
theorem w62_chain : Chain 4188 (w62 : List (HloOp τ sig (Elt F))) :=
  Chain.cons (stepAt_binary 4188 _ _ _ _ rfl (by decide) (by decide)) <|
  Chain.cons (stepAt_unary 4189 _ _ _ rfl (by decide)) <|
  Chain.cons (stepAt_unary 4190 _ _ _ rfl (by decide)) <|
  Chain.cons (stepAt_binary 4191 _ _ _ _ rfl (by decide) (by decide)) <|
  Chain.cons (stepAt_binary 4192 _ _ _ _ rfl (by decide) (by decide)) <|
  Chain.cons (stepAt_unary 4193 _ _ _ rfl (by decide)) <|
  Chain.cons (stepAt_binary 4194 _ _ _ _ rfl (by decide) (by decide)) <|
  Chain.cons (stepAt_nullary 4195 _ _ rfl) <|
  Chain.cons (stepAt_unary 4196 _ _ _ rfl (by decide)) <|
  Chain.cons (stepAt_binary 4197 _ _ _ _ rfl (by decide) (by decide)) <|
  Chain.cons (stepAt_nullary 4198 _ _ rfl) <|
  Chain.cons (stepAt_unary 4199 _ _ _ rfl (by decide)) <|
  Chain.cons (stepAt_binary 4200 _ _ _ _ rfl (by decide) (by decide)) <|
  Chain.cons (stepAt_ternary 4201 _ _ _ _ _ rfl (by decide) (by decide) (by decide)) <|
  Chain.cons (stepAt_unary 4202 _ _ _ rfl (by decide)) <|
  Chain.cons (stepAt_binary 4203 _ _ _ _ rfl (by decide) (by decide)) <|
  Chain.cons (stepAt_unary 4204 _ _ _ rfl (by decide)) <|
  Chain.cons (stepAt_reshape 4205 _ _ _ _ rfl (by decide)) <|
  Chain.cons (stepAt_nullary 4206 _ _ rfl) <|
  Chain.cons (stepAt_unary 4207 _ _ _ rfl (by decide)) <|
  Chain.cons (stepAt_binary 4208 _ _ _ _ rfl (by decide) (by decide)) <|
  Chain.cons (stepAt_nullary 4209 _ _ rfl) <|
  Chain.cons (stepAt_unary 4210 _ _ _ rfl (by decide)) <|
  Chain.cons (stepAt_binary 4211 _ _ _ _ rfl (by decide) (by decide)) <|
  Chain.cons (stepAt_nullary 4212 _ _ rfl) <|
  Chain.cons (stepAt_unary 4213 _ _ _ rfl (by decide)) <|
  Chain.cons (stepAt_binary 4214 _ _ _ _ rfl (by decide) (by decide)) <|
  Chain.cons (stepAt_unary 4215 _ _ _ rfl (by decide)) <|
  Chain.cons (stepAt_reshape 4216 _ _ _ _ rfl (by decide)) <|
  Chain.cons (stepAt_nullary 4217 _ _ rfl) <|
  Chain.cons (stepAt_unary 4218 _ _ _ rfl (by decide)) <|
  Chain.cons (stepAt_binary 4219 _ _ _ _ rfl (by decide) (by decide)) <|
  Chain.cons (stepAt_nullary 4220 _ _ rfl) <|
  Chain.cons (stepAt_unary 4221 _ _ _ rfl (by decide)) <|
  Chain.cons (stepAt_binary 4222 _ _ _ _ rfl (by decide) (by decide)) <|
  Chain.cons (stepAt_nullary 4223 _ _ rfl) <|
  Chain.cons (stepAt_unary 4224 _ _ _ rfl (by decide)) <|
  Chain.cons (stepAt_binary 4225 _ _ _ _ rfl (by decide) (by decide)) <|
  Chain.cons (stepAt_unary 4226 _ _ _ rfl (by decide)) <|
  Chain.cons (stepAt_unary 4227 _ _ _ rfl (by decide)) <|
  Chain.cons (stepAt_binary 4228 _ _ _ _ rfl (by decide) (by decide)) <|
  Chain.cons (stepAt_binary 4229 _ _ _ _ rfl (by decide) (by decide)) <|
  Chain.cons (stepAt_unary 4230 _ _ _ rfl (by decide)) <|
  Chain.cons (stepAt_nullary 4231 _ _ rfl) <|
  Chain.cons (stepAt_nullary 4232 _ _ rfl) <|
  Chain.cons (stepAt_unary 4233 _ _ _ rfl (by decide)) <|
  Chain.cons (stepAt_unary 4234 _ _ _ rfl (by decide)) <|
  Chain.cons (stepAt_binary 4235 _ _ _ _ rfl (by decide) (by decide)) <|
  Chain.cons (stepAt_unary 4236 _ _ _ rfl (by decide)) <|
  Chain.cons (stepAt_unary 4237 _ _ _ rfl (by decide)) <|
  Chain.cons (stepAt_binary 4238 _ _ _ _ rfl (by decide) (by decide)) <|
  Chain.cons (stepAt_nullary 4239 _ _ rfl) <|
  Chain.cons (stepAt_unary 4240 _ _ _ rfl (by decide)) <|
  Chain.cons (stepAt_binary 4241 _ _ _ _ rfl (by decide) (by decide)) <|
  Chain.cons (stepAt_nullary 4242 _ _ rfl) <|
  Chain.cons (stepAt_nullary 4243 _ _ rfl) <|
  Chain.cons (stepAt_unary 4244 _ _ _ rfl (by decide)) <|
  Chain.cons (stepAt_unary 4245 _ _ _ rfl (by decide)) <|
  Chain.cons (stepAt_binary 4246 _ _ _ _ rfl (by decide) (by decide)) <|
  Chain.cons (stepAt_unary 4247 _ _ _ rfl (by decide)) <|
  Chain.cons (stepAt_unary 4248 _ _ _ rfl (by decide)) <|
  Chain.cons (stepAt_binary 4249 _ _ _ _ rfl (by decide) (by decide)) <|
  Chain.cons (stepAt_unary 4250 _ _ _ rfl (by decide)) <|
  Chain.cons (stepAt_nullary 4251 _ _ rfl) <|
  Chain.cons (stepAt_nullary 4252 _ _ rfl) <|
  Chain.cons (stepAt_unary 4253 _ _ _ rfl (by decide)) <|
  Chain.cons (stepAt_unary 4254 _ _ _ rfl (by decide)) <|
  Chain.cons (stepAt_binary 4255 _ _ _ _ rfl (by decide) (by decide)) <|
  Chain.cons (stepAt_unary 4256 _ _ _ rfl (by decide)) <|
  Chain.cons (stepAt_unary 4257 _ _ _ rfl (by decide)) <|
  Chain.cons (stepAt_binary 4258 _ _ _ _ rfl (by decide) (by decide)) <|
  Chain.cons (stepAt_nullary 4259 _ _ rfl) <|
  Chain.cons (stepAt_unary 4260 _ _ _ rfl (by decide)) <|
  Chain.cons (stepAt_binary 4261 _ _ _ _ rfl (by decide) (by decide)) <|
  Chain.cons (stepAt_nullary 4262 _ _ rfl) <|
  Chain.nil
theorem w62_length : (w62 : List (HloOp τ sig (Elt F))).length = 75 := rfl

/-- Window 63 of @main: 65 operations, writing buffers 4263 … 4327. -/
abbrev w63 : List (HloOp τ sig (Elt F)) :=
  [ StableHlo.nullary main_c_877 (constantI S_ 32 149#32),
    StableHlo.TRef.unary (.of main_c_876) main_call91.v0 id,
    StableHlo.TRef.unary main_call91.v0 main_call91.v1 (broadcastInDim S131072 ![] bcast_S_S131072),
    StableHlo.TRef.binary main_call91.v1 (.of main_v2900) main_call91.v2 maxsi,
    StableHlo.TRef.unary (.of main_c_877) main_call91.v3 id,
    StableHlo.TRef.unary main_call91.v3 main_call91.v4 (broadcastInDim S131072 ![] bcast_S_S131072),
    StableHlo.TRef.binary main_call91.v4 main_call91.v2 main_call91.v5 minsi,
    StableHlo.nullary main_c_878 (constantI S_ 32 0#32),
    StableHlo.unary main_c_878 main_v2902 (broadcastInDim S131072 ![] bcast_S_S131072 : (⟨S_, .i32⟩ : BufTy).Contents (Elt F) → (⟨S131072, .i32⟩ : BufTy).Contents (Elt F)),
    StableHlo.binary main_v2898 main_v2902 main_v2903 (cmpi .slt : (⟨S131072, .i32⟩ : BufTy).Contents (Elt F) → (⟨S131072, .i32⟩ : BufTy).Contents (Elt F) → (⟨S131072, .i1⟩ : BufTy).Contents (Elt F)),
    StableHlo.nullary main_c_879 (constantI S_ 32 150#32),
    StableHlo.unary main_c_879 main_v2904 (broadcastInDim S131072 ![] bcast_S_S131072 : (⟨S_, .i32⟩ : BufTy).Contents (Elt F) → (⟨S131072, .i32⟩ : BufTy).Contents (Elt F)),
    StableHlo.binary main_v2898 main_v2904 main_v2905 (addi : (⟨S131072, .i32⟩ : BufTy).Contents (Elt F) → (⟨S131072, .i32⟩ : BufTy).Contents (Elt F) → (⟨S131072, .i32⟩ : BufTy).Contents (Elt F)),
    StableHlo.ternary main_v2903 main_v2905 main_v2898 main_v2906 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_880 (constantI S_ 32 0#32),
    StableHlo.unary main_c_880 main_v2907 (broadcastInDim S131072 ![] bcast_S_S131072 : (⟨S_, .i32⟩ : BufTy).Contents (Elt F) → (⟨S131072, .i32⟩ : BufTy).Contents (Elt F)),
    StableHlo.binary main_v2893 main_v2907 main_v2908 (cmpi .slt : (⟨S131072, .i32⟩ : BufTy).Contents (Elt F) → (⟨S131072, .i32⟩ : BufTy).Contents (Elt F) → (⟨S131072, .i1⟩ : BufTy).Contents (Elt F)),
    StableHlo.nullary main_c_881 (constantI S_ 32 512#32),
    StableHlo.unary main_c_881 main_v2909 (broadcastInDim S131072 ![] bcast_S_S131072 : (⟨S_, .i32⟩ : BufTy).Contents (Elt F) → (⟨S131072, .i32⟩ : BufTy).Contents (Elt F)),
    StableHlo.binary main_v2893 main_v2909 main_v2910 (addi : (⟨S131072, .i32⟩ : BufTy).Contents (Elt F) → (⟨S131072, .i32⟩ : BufTy).Contents (Elt F) → (⟨S131072, .i32⟩ : BufTy).Contents (Elt F)),
    StableHlo.ternary main_v2908 main_v2910 main_v2893 main_v2911 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2906 main_v2912 (broadcastInDim S131072x1 ![0] bcast_S131072_S131072x1_0 : (⟨S131072, .i32⟩ : BufTy).Contents (Elt F) → (⟨S131072x1, .i32⟩ : BufTy).Contents (Elt F)),
    StableHlo.unary main_v2911 main_v2913 (broadcastInDim S131072x1 ![0] bcast_S131072_S131072x1_0 : (⟨S131072, .i32⟩ : BufTy).Contents (Elt F) → (⟨S131072x1, .i32⟩ : BufTy).Contents (Elt F)),
    StableHlo.binary main_v2912 main_v2913 main_v2914 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg24 main_v2914 main_v2915 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_882 (constantI S_ 32 0#32),
    StableHlo.unary main_c_882 main_v2916 (broadcastInDim S131072 ![] bcast_S_S131072 : (⟨S_, .i32⟩ : BufTy).Contents (Elt F) → (⟨S131072, .i32⟩ : BufTy).Contents (Elt F)),
    StableHlo.binary main_v2898 main_v2916 main_v2917 (cmpi .slt : (⟨S131072, .i32⟩ : BufTy).Contents (Elt F) → (⟨S131072, .i32⟩ : BufTy).Contents (Elt F) → (⟨S131072, .i1⟩ : BufTy).Contents (Elt F)),
    StableHlo.nullary main_c_883 (constantI S_ 32 150#32),
    StableHlo.unary main_c_883 main_v2918 (broadcastInDim S131072 ![] bcast_S_S131072 : (⟨S_, .i32⟩ : BufTy).Contents (Elt F) → (⟨S131072, .i32⟩ : BufTy).Contents (Elt F)),
    StableHlo.binary main_v2898 main_v2918 main_v2919 (addi : (⟨S131072, .i32⟩ : BufTy).Contents (Elt F) → (⟨S131072, .i32⟩ : BufTy).Contents (Elt F) → (⟨S131072, .i32⟩ : BufTy).Contents (Elt F)),
    StableHlo.ternary main_v2917 main_v2919 main_v2898 main_v2920 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_884 (constantI S_ 32 0#32),
    StableHlo.unary main_c_884 main_v2921 (broadcastInDim S131072 ![] bcast_S_S131072 : (⟨S_, .i32⟩ : BufTy).Contents (Elt F) → (⟨S131072, .i32⟩ : BufTy).Contents (Elt F)),
    StableHlo.binary main_v2896 main_v2921 main_v2922 (cmpi .slt : (⟨S131072, .i32⟩ : BufTy).Contents (Elt F) → (⟨S131072, .i32⟩ : BufTy).Contents (Elt F) → (⟨S131072, .i1⟩ : BufTy).Contents (Elt F)),
    StableHlo.nullary main_c_885 (constantI S_ 32 512#32),
    StableHlo.unary main_c_885 main_v2923 (broadcastInDim S131072 ![] bcast_S_S131072 : (⟨S_, .i32⟩ : BufTy).Contents (Elt F) → (⟨S131072, .i32⟩ : BufTy).Contents (Elt F)),
    StableHlo.binary main_v2896 main_v2923 main_v2924 (addi : (⟨S131072, .i32⟩ : BufTy).Contents (Elt F) → (⟨S131072, .i32⟩ : BufTy).Contents (Elt F) → (⟨S131072, .i32⟩ : BufTy).Contents (Elt F)),
    StableHlo.ternary main_v2922 main_v2924 main_v2896 main_v2925 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2920 main_v2926 (broadcastInDim S131072x1 ![0] bcast_S131072_S131072x1_0 : (⟨S131072, .i32⟩ : BufTy).Contents (Elt F) → (⟨S131072x1, .i32⟩ : BufTy).Contents (Elt F)),
    StableHlo.unary main_v2925 main_v2927 (broadcastInDim S131072x1 ![0] bcast_S131072_S131072x1_0 : (⟨S131072, .i32⟩ : BufTy).Contents (Elt F) → (⟨S131072x1, .i32⟩ : BufTy).Contents (Elt F)),
    StableHlo.binary main_v2926 main_v2927 main_v2928 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg24 main_v2928 main_v2929 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_886 (constantI S_ 32 0#32),
    StableHlo.unary main_c_886 main_v2930 (broadcastInDim S131072 ![] bcast_S_S131072 : (⟨S_, .i32⟩ : BufTy).Contents (Elt F) → (⟨S131072, .i32⟩ : BufTy).Contents (Elt F)),
    StableHlo.binary main_v2901 main_v2930 main_v2931 (cmpi .slt : (⟨S131072, .i32⟩ : BufTy).Contents (Elt F) → (⟨S131072, .i32⟩ : BufTy).Contents (Elt F) → (⟨S131072, .i1⟩ : BufTy).Contents (Elt F)),
    StableHlo.nullary main_c_887 (constantI S_ 32 150#32),
    StableHlo.unary main_c_887 main_v2932 (broadcastInDim S131072 ![] bcast_S_S131072 : (⟨S_, .i32⟩ : BufTy).Contents (Elt F) → (⟨S131072, .i32⟩ : BufTy).Contents (Elt F)),
    StableHlo.binary main_v2901 main_v2932 main_v2933 (addi : (⟨S131072, .i32⟩ : BufTy).Contents (Elt F) → (⟨S131072, .i32⟩ : BufTy).Contents (Elt F) → (⟨S131072, .i32⟩ : BufTy).Contents (Elt F)),
    StableHlo.ternary main_v2931 main_v2933 main_v2901 main_v2934 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_888 (constantI S_ 32 0#32),
    StableHlo.unary main_c_888 main_v2935 (broadcastInDim S131072 ![] bcast_S_S131072 : (⟨S_, .i32⟩ : BufTy).Contents (Elt F) → (⟨S131072, .i32⟩ : BufTy).Contents (Elt F)),
    StableHlo.binary main_v2893 main_v2935 main_v2936 (cmpi .slt : (⟨S131072, .i32⟩ : BufTy).Contents (Elt F) → (⟨S131072, .i32⟩ : BufTy).Contents (Elt F) → (⟨S131072, .i1⟩ : BufTy).Contents (Elt F)),
    StableHlo.nullary main_c_889 (constantI S_ 32 512#32),
    StableHlo.unary main_c_889 main_v2937 (broadcastInDim S131072 ![] bcast_S_S131072 : (⟨S_, .i32⟩ : BufTy).Contents (Elt F) → (⟨S131072, .i32⟩ : BufTy).Contents (Elt F)),
    StableHlo.binary main_v2893 main_v2937 main_v2938 (addi : (⟨S131072, .i32⟩ : BufTy).Contents (Elt F) → (⟨S131072, .i32⟩ : BufTy).Contents (Elt F) → (⟨S131072, .i32⟩ : BufTy).Contents (Elt F)),
    StableHlo.ternary main_v2936 main_v2938 main_v2893 main_v2939 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2934 main_v2940 (broadcastInDim S131072x1 ![0] bcast_S131072_S131072x1_0 : (⟨S131072, .i32⟩ : BufTy).Contents (Elt F) → (⟨S131072x1, .i32⟩ : BufTy).Contents (Elt F)),
    StableHlo.unary main_v2939 main_v2941 (broadcastInDim S131072x1 ![0] bcast_S131072_S131072x1_0 : (⟨S131072, .i32⟩ : BufTy).Contents (Elt F) → (⟨S131072x1, .i32⟩ : BufTy).Contents (Elt F)),
    StableHlo.binary main_v2940 main_v2941 main_v2942 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg24 main_v2942 main_v2943 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_890 (constantI S_ 32 0#32),
    StableHlo.unary main_c_890 main_v2944 (broadcastInDim S131072 ![] bcast_S_S131072 : (⟨S_, .i32⟩ : BufTy).Contents (Elt F) → (⟨S131072, .i32⟩ : BufTy).Contents (Elt F)),
    StableHlo.binary main_v2901 main_v2944 main_v2945 (cmpi .slt : (⟨S131072, .i32⟩ : BufTy).Contents (Elt F) → (⟨S131072, .i32⟩ : BufTy).Contents (Elt F) → (⟨S131072, .i1⟩ : BufTy).Contents (Elt F)),
    StableHlo.nullary main_c_891 (constantI S_ 32 150#32) ]
theorem w63_eq (c : Dev nD) : main_part63 (F := F) c = seq w63 := rfl
theorem w63_sub : (w63 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub ..⟩
theorem w63_fresh : (w63 : List (HloOp τ sig (Elt F))).Forall fun op => op.fresh = ∅ := by
  simp only [List.Forall]; repeat' constructor
set_option maxHeartbeats 4000000 in
theorem w63_chain : Chain 4263 (w63 : List (HloOp τ sig (Elt F))) :=
  Chain.cons (stepAt_nullary 4263 _ _ rfl) <|
  Chain.cons (stepAt_unary 4264 _ _ _ rfl (by decide)) <|
  Chain.cons (stepAt_unary 4265 _ _ _ rfl (by decide)) <|
  Chain.cons (stepAt_binary 4266 _ _ _ _ rfl (by decide) (by decide)) <|
  Chain.cons (stepAt_unary 4267 _ _ _ rfl (by decide)) <|
  Chain.cons (stepAt_unary 4268 _ _ _ rfl (by decide)) <|
  Chain.cons (stepAt_binary 4269 _ _ _ _ rfl (by decide) (by decide)) <|
  Chain.cons (stepAt_nullary 4270 _ _ rfl) <|
  Chain.cons (stepAt_unary 4271 _ _ _ rfl (by decide)) <|
  Chain.cons (stepAt_binary 4272 _ _ _ _ rfl (by decide) (by decide)) <|
  Chain.cons (stepAt_nullary 4273 _ _ rfl) <|
  Chain.cons (stepAt_unary 4274 _ _ _ rfl (by decide)) <|
  Chain.cons (stepAt_binary 4275 _ _ _ _ rfl (by decide) (by decide)) <|
  Chain.cons (stepAt_ternary 4276 _ _ _ _ _ rfl (by decide) (by decide) (by decide)) <|
  Chain.cons (stepAt_nullary 4277 _ _ rfl) <|
  Chain.cons (stepAt_unary 4278 _ _ _ rfl (by decide)) <|
  Chain.cons (stepAt_binary 4279 _ _ _ _ rfl (by decide) (by decide)) <|
  Chain.cons (stepAt_nullary 4280 _ _ rfl) <|
  Chain.cons (stepAt_unary 4281 _ _ _ rfl (by decide)) <|
  Chain.cons (stepAt_binary 4282 _ _ _ _ rfl (by decide) (by decide)) <|
  Chain.cons (stepAt_ternary 4283 _ _ _ _ _ rfl (by decide) (by decide) (by decide)) <|
  Chain.cons (stepAt_unary 4284 _ _ _ rfl (by decide)) <|
  Chain.cons (stepAt_unary 4285 _ _ _ rfl (by decide)) <|
  Chain.cons (stepAt_binary 4286 _ _ _ _ rfl (by decide) (by decide)) <|
  Chain.cons (stepAt_binary 4287 _ _ _ _ rfl (by decide) (by decide)) <|
  Chain.cons (stepAt_nullary 4288 _ _ rfl) <|
  Chain.cons (stepAt_unary 4289 _ _ _ rfl (by decide)) <|
  Chain.cons (stepAt_binary 4290 _ _ _ _ rfl (by decide) (by decide)) <|
  Chain.cons (stepAt_nullary 4291 _ _ rfl) <|
  Chain.cons (stepAt_unary 4292 _ _ _ rfl (by decide)) <|
  Chain.cons (stepAt_binary 4293 _ _ _ _ rfl (by decide) (by decide)) <|
  Chain.cons (stepAt_ternary 4294 _ _ _ _ _ rfl (by decide) (by decide) (by decide)) <|
  Chain.cons (stepAt_nullary 4295 _ _ rfl) <|
  Chain.cons (stepAt_unary 4296 _ _ _ rfl (by decide)) <|
  Chain.cons (stepAt_binary 4297 _ _ _ _ rfl (by decide) (by decide)) <|
  Chain.cons (stepAt_nullary 4298 _ _ rfl) <|
  Chain.cons (stepAt_unary 4299 _ _ _ rfl (by decide)) <|
  Chain.cons (stepAt_binary 4300 _ _ _ _ rfl (by decide) (by decide)) <|
  Chain.cons (stepAt_ternary 4301 _ _ _ _ _ rfl (by decide) (by decide) (by decide)) <|
  Chain.cons (stepAt_unary 4302 _ _ _ rfl (by decide)) <|
  Chain.cons (stepAt_unary 4303 _ _ _ rfl (by decide)) <|
  Chain.cons (stepAt_binary 4304 _ _ _ _ rfl (by decide) (by decide)) <|
  Chain.cons (stepAt_binary 4305 _ _ _ _ rfl (by decide) (by decide)) <|
  Chain.cons (stepAt_nullary 4306 _ _ rfl) <|
  Chain.cons (stepAt_unary 4307 _ _ _ rfl (by decide)) <|
  Chain.cons (stepAt_binary 4308 _ _ _ _ rfl (by decide) (by decide)) <|
  Chain.cons (stepAt_nullary 4309 _ _ rfl) <|
  Chain.cons (stepAt_unary 4310 _ _ _ rfl (by decide)) <|
  Chain.cons (stepAt_binary 4311 _ _ _ _ rfl (by decide) (by decide)) <|
  Chain.cons (stepAt_ternary 4312 _ _ _ _ _ rfl (by decide) (by decide) (by decide)) <|
  Chain.cons (stepAt_nullary 4313 _ _ rfl) <|
  Chain.cons (stepAt_unary 4314 _ _ _ rfl (by decide)) <|
  Chain.cons (stepAt_binary 4315 _ _ _ _ rfl (by decide) (by decide)) <|
  Chain.cons (stepAt_nullary 4316 _ _ rfl) <|
  Chain.cons (stepAt_unary 4317 _ _ _ rfl (by decide)) <|
  Chain.cons (stepAt_binary 4318 _ _ _ _ rfl (by decide) (by decide)) <|
  Chain.cons (stepAt_ternary 4319 _ _ _ _ _ rfl (by decide) (by decide) (by decide)) <|
  Chain.cons (stepAt_unary 4320 _ _ _ rfl (by decide)) <|
  Chain.cons (stepAt_unary 4321 _ _ _ rfl (by decide)) <|
  Chain.cons (stepAt_binary 4322 _ _ _ _ rfl (by decide) (by decide)) <|
  Chain.cons (stepAt_binary 4323 _ _ _ _ rfl (by decide) (by decide)) <|
  Chain.cons (stepAt_nullary 4324 _ _ rfl) <|
  Chain.cons (stepAt_unary 4325 _ _ _ rfl (by decide)) <|
  Chain.cons (stepAt_binary 4326 _ _ _ _ rfl (by decide) (by decide)) <|
  Chain.cons (stepAt_nullary 4327 _ _ rfl) <|
  Chain.nil
theorem w63_length : (w63 : List (HloOp τ sig (Elt F))).length = 65 := rfl

end Cert.ReferenceIdeal.Ops

end
-- ==== Proof.SimB19.lean ====
/- Operations 3588 … 3774 of the one program and 3603 … 3789 of the other apply the same functions to corresponding
   buffers. If both programs' final contents satisfy their own lines' equations and agree on the buffers these operations
   read from outside, they agree on what these operations write: one congruence per operation, in program order. -/
import proofs.«133805_j10187662426200_2_alg».proof.Proof.KIStretch3
import proofs.«133805_j10187662426200_2_alg».proof.Proof.KIStretch4
import proofs.«133805_j10187662426200_2_alg».proof.Proof.RefOps6
import proofs.«133805_j10187662426200_2_alg».proof.Proof.RefOps7
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B19 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_152 : List (HloOp Cert.KernelIdeal.τ Cert.KernelIdeal.sig (Elt F))).Forall fun op => ∀ b ∈ op.writes, Φ₁ b = op.result Φ₁ b)
    (fa1 : (Cert.KernelIdeal.Gen.hostOps0_153 : List (HloOp Cert.KernelIdeal.τ Cert.KernelIdeal.sig (Elt F))).Forall fun op => ∀ b ∈ op.writes, Φ₁ b = op.result Φ₁ b)
    (fa2 : (Cert.KernelIdeal.Gen.hostOps0_154 : List (HloOp Cert.KernelIdeal.τ Cert.KernelIdeal.sig (Elt F))).Forall fun op => ∀ b ∈ op.writes, Φ₁ b = op.result Φ₁ b)
    (fa3 : (Cert.KernelIdeal.Gen.hostOps0_155 : List (HloOp Cert.KernelIdeal.τ Cert.KernelIdeal.sig (Elt F))).Forall fun op => ∀ b ∈ op.writes, Φ₁ b = op.result Φ₁ b)
    (fa4 : (Cert.KernelIdeal.Gen.hostOps0_156 : List (HloOp Cert.KernelIdeal.τ Cert.KernelIdeal.sig (Elt F))).Forall fun op => ∀ b ∈ op.writes, Φ₁ b = op.result Φ₁ b)
    (fa5 : (Cert.KernelIdeal.Gen.hostOps0_157 : List (HloOp Cert.KernelIdeal.τ Cert.KernelIdeal.sig (Elt F))).Forall fun op => ∀ b ∈ op.writes, Φ₁ b = op.result Φ₁ b)
    (fa6 : (Cert.KernelIdeal.Gen.hostOps0_158 : List (HloOp Cert.KernelIdeal.τ Cert.KernelIdeal.sig (Elt F))).Forall fun op => ∀ b ∈ op.writes, Φ₁ b = op.result Φ₁ b)
    (fa7 : (Cert.KernelIdeal.Gen.hostOps0_159 : List (HloOp Cert.KernelIdeal.τ Cert.KernelIdeal.sig (Elt F))).Forall fun op => ∀ b ∈ op.writes, Φ₁ b = op.result Φ₁ b)
    (fa8 : (Cert.KernelIdeal.Gen.hostOps0_160 : List (HloOp Cert.KernelIdeal.τ Cert.KernelIdeal.sig (Elt F))).Forall fun op => ∀ b ∈ op.writes, Φ₁ b = op.result Φ₁ b)
    (fb0 : (Cert.ReferenceIdeal.Ops.w53 : List (HloOp Cert.ReferenceIdeal.τ Cert.ReferenceIdeal.sig (Elt F))).Forall fun op => ∀ b ∈ op.writes, Φ₂ b = op.result Φ₂ b)
    (fb1 : (Cert.ReferenceIdeal.Ops.w54 : List (HloOp Cert.ReferenceIdeal.τ Cert.ReferenceIdeal.sig (Elt F))).Forall fun op => ∀ b ∈ op.writes, Φ₂ b = op.result Φ₂ b)
    (fb2 : (Cert.ReferenceIdeal.Ops.w55 : List (HloOp Cert.ReferenceIdeal.τ Cert.ReferenceIdeal.sig (Elt F))).Forall fun op => ∀ b ∈ op.writes, Φ₂ b = op.result Φ₂ b)
    (fb3 : (Cert.ReferenceIdeal.Ops.w56 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_18)) (Φ₂ (Proc.devRef .tc Cert.ReferenceIdeal.main_c_18)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x512x512, .f32⟩ : BufTy).Contents (Elt F)) (Φ₁ (Proc.devRef .tc Cert.KernelIdeal.main_arg21)) (Φ₂ (Proc.devRef .tc Cert.ReferenceIdeal.main_arg21)))
    : @Eq ((⟨Cert.KernelIdeal.S131072x32, .f32⟩ : BufTy).Contents (Elt F)) (Φ₁ (Proc.devRef .tc Cert.KernelIdeal.main_v2588)) (Φ₂ (Proc.devRef .tc Cert.ReferenceIdeal.main_v2603)) := by
  have e0 : @Eq ((⟨Cert.KernelIdeal.S_, .i32⟩ : BufTy).Contents (Elt F)) (Φ₁ (Proc.devRef .tc Cert.KernelIdeal.main_c_746)) (Φ₂ (Proc.devRef .tc Cert.ReferenceIdeal.main_c_746)) := step0 (β := ((⟨Cert.KernelIdeal.S_, .i32⟩ : BufTy).Contents (Elt F))) (eq0 (at_ fa0 (i := 112) rfl) :) (eq0 (at_ fb0 (i := 43) rfl) :)
  have e1 : @Eq ((⟨Cert.KernelIdeal.S2, .i32⟩ : BufTy).Contents (Elt F)) (Φ₁ (Proc.devRef .tc Cert.KernelIdeal.main_v2460)) (Φ₂ (Proc.devRef .tc Cert.ReferenceIdeal.main_v2475)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 44) rfl) :) e0
  have e2 : @Eq ((⟨Cert.KernelIdeal.S2, .i1⟩ : BufTy).Contents (Elt F)) (Φ₁ (Proc.devRef .tc Cert.KernelIdeal.main_v2461)) (Φ₂ (Proc.devRef .tc Cert.ReferenceIdeal.main_v2476)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 45) rfl) :) x0 e1
  have e3 : @Eq ((⟨Cert.KernelIdeal.S_, .i32⟩ : BufTy).Contents (Elt F)) (Φ₁ (Proc.devRef .tc Cert.KernelIdeal.main_c_747)) (Φ₂ (Proc.devRef .tc Cert.ReferenceIdeal.main_c_747)) := step0 (β := ((⟨Cert.KernelIdeal.S_, .i32⟩ : BufTy).Contents (Elt F))) (eq0 (at_ fa0 (i := 115) rfl) :) (eq0 (at_ fb0 (i := 46) rfl) :)
  have e4 : @Eq ((⟨Cert.KernelIdeal.S2, .i32⟩ : BufTy).Contents (Elt F)) (Φ₁ (Proc.devRef .tc Cert.KernelIdeal.main_v2462)) (Φ₂ (Proc.devRef .tc Cert.ReferenceIdeal.main_v2477)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 47) rfl) :) e3
  have e5 : @Eq ((⟨Cert.KernelIdeal.S2, .i32⟩ : BufTy).Contents (Elt F)) (Φ₁ (Proc.devRef .tc Cert.KernelIdeal.main_v2463)) (Φ₂ (Proc.devRef .tc Cert.ReferenceIdeal.main_v2478)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 48) rfl) :) x0 e4
  have e6 : @Eq ((⟨Cert.KernelIdeal.S2, .i32⟩ : BufTy).Contents (Elt F)) (Φ₁ (Proc.devRef .tc Cert.KernelIdeal.main_v2464)) (Φ₂ (Proc.devRef .tc Cert.ReferenceIdeal.main_v2479)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 49) rfl) :) e2 e5 x0
  have e7 : @Eq ((⟨Cert.KernelIdeal.S2x1, .i32⟩ : BufTy).Contents (Elt F)) (Φ₁ (Proc.devRef .tc Cert.KernelIdeal.main_v2465)) (Φ₂ (Proc.devRef .tc Cert.ReferenceIdeal.main_v2480)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 50) rfl) :) e6
  have e8 : @Eq ((⟨Cert.KernelIdeal.S131072x2, .f32⟩ : BufTy).Contents (Elt F)) (Φ₁ (Proc.devRef .tc Cert.KernelIdeal.main_v2466)) (Φ₂ (Proc.devRef .tc Cert.ReferenceIdeal.main_v2481)) := by rw [eq2 (at_ fa0 (i := 120) rfl), eq2 (at_ fb0 (i := 51) rfl), x1, e7] <;> rfl
  have e9 : @Eq ((⟨Cert.KernelIdeal.S131072x1, .f32⟩ : BufTy).Contents (Elt F)) (Φ₁ (Proc.devRef .tc Cert.KernelIdeal.main_v2467)) (Φ₂ (Proc.devRef .tc Cert.ReferenceIdeal.main_v2482)) := by rw [eq1 (at_ fa0 (i := 121) rfl), eq1 (at_ fb0 (i := 52) rfl), e8] <;> rfl
  have e10 : @Eq ((⟨Cert.KernelIdeal.S131072, .f32⟩ : BufTy).Contents (Elt F)) (Φ₁ (Proc.devRef .tc Cert.KernelIdeal.main_v2468)) (Φ₂ (Proc.devRef .tc Cert.ReferenceIdeal.main_v2483)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 53) rfl) :) e9
  have e11 : @Eq ((⟨Cert.KernelIdeal.S_, .f32⟩ : BufTy).Contents (Elt F)) (Φ₁ (Proc.devRef .tc Cert.KernelIdeal.main_cst_748)) (Φ₂ (Proc.devRef .tc Cert.ReferenceIdeal.main_cst_748)) := step0 (β := ((⟨Cert.KernelIdeal.S_, .f32⟩ : BufTy).Contents (Elt F))) (eq0 (at_ fa0 (i := 123) rfl) :) (eq0 (at_ fb0 (i := 54) rfl) :)
  have e12 : @Eq ((⟨Cert.KernelIdeal.S131072, .f32⟩ : BufTy).Contents (Elt F)) (Φ₁ (Proc.devRef .tc Cert.KernelIdeal.main_v2469)) (Φ₂ (Proc.devRef .tc Cert.ReferenceIdeal.main_v2484)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 55) rfl) :) e11
  have e13 : @Eq ((⟨Cert.KernelIdeal.S131072, .f32⟩ : BufTy).Contents (Elt F)) (Φ₁ (Proc.devRef .tc Cert.KernelIdeal.main_v2470)) (Φ₂ (Proc.devRef .tc Cert.ReferenceIdeal.main_v2485)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 56) rfl) :) e10 e12
  have e14 : @Eq ((⟨Cert.KernelIdeal.S_, .f32⟩ : BufTy).Contents (Elt F)) (Φ₁ (Proc.devRef .tc Cert.KernelIdeal.main_cst_749)) (Φ₂ (Proc.devRef .tc Cert.ReferenceIdeal.main_cst_749)) := step0 (β := ((⟨Cert.KernelIdeal.S_, .f32⟩ : BufTy).Contents (Elt F))) (eq0 (at_ fa0 (i := 126) rfl) :) (eq0 (at_ fb0 (i := 57) rfl) :)
  have e15 : @Eq ((⟨Cert.KernelIdeal.S131072, .f32⟩ : BufTy).Contents (Elt F)) (Φ₁ (Proc.devRef .tc Cert.KernelIdeal.main_v2471)) (Φ₂ (Proc.devRef .tc Cert.ReferenceIdeal.main_v2486)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 58) rfl) :) e14
  have e16 : @Eq ((⟨Cert.KernelIdeal.S131072, .f32⟩ : BufTy).Contents (Elt F)) (Φ₁ (Proc.devRef .tc Cert.KernelIdeal.main_v2472)) (Φ₂ (Proc.devRef .tc Cert.ReferenceIdeal.main_v2487)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 59) rfl) :) e13 e15
  have e17 : @Eq ((⟨Cert.KernelIdeal.S_, .f32⟩ : BufTy).Contents (Elt F)) (Φ₁ (Proc.devRef .tc Cert.KernelIdeal.main_cst_750)) (Φ₂ (Proc.devRef .tc Cert.ReferenceIdeal.main_cst_750)) := step0 (β := ((⟨Cert.KernelIdeal.S_, .f32⟩ : BufTy).Contents (Elt F))) (eq0 (at_ fa0 (i := 129) rfl) :) (eq0 (at_ fb1 (i := 0) rfl) :)
  have e18 : @Eq ((⟨Cert.KernelIdeal.S131072, .f32⟩ : BufTy).Contents (Elt F)) (Φ₁ (Proc.devRef .tc Cert.KernelIdeal.main_v2473)) (Φ₂ (Proc.devRef .tc Cert.ReferenceIdeal.main_v2488)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 1) rfl) :) e17
  have e19 : @Eq ((⟨Cert.KernelIdeal.S131072, .f32⟩ : BufTy).Contents (Elt F)) (Φ₁ (Proc.devRef .tc Cert.KernelIdeal.main_v2474)) (Φ₂ (Proc.devRef .tc Cert.ReferenceIdeal.main_v2489)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 2) rfl) :) e16 e18
  have e20 : @Eq ((⟨Cert.KernelIdeal.S131072x1, .f32⟩ : BufTy).Contents (Elt F)) (Φ₁ (Proc.devRef .tc Cert.KernelIdeal.main_v2475)) (Φ₂ (Proc.devRef .tc Cert.ReferenceIdeal.main_v2490)) := by rw [eq1 (at_ fa0 (i := 132) rfl), eq1 (at_ fb1 (i := 3) rfl), e8] <;> rfl
  have e21 : @Eq ((⟨Cert.KernelIdeal.S131072, .f32⟩ : BufTy).Contents (Elt F)) (Φ₁ (Proc.devRef .tc Cert.KernelIdeal.main_v2476)) (Φ₂ (Proc.devRef .tc Cert.ReferenceIdeal.main_v2491)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 4) rfl) :) e20
  have e22 : @Eq ((⟨Cert.KernelIdeal.S_, .f32⟩ : BufTy).Contents (Elt F)) (Φ₁ (Proc.devRef .tc Cert.KernelIdeal.main_cst_751)) (Φ₂ (Proc.devRef .tc Cert.ReferenceIdeal.main_cst_751)) := step0 (β := ((⟨Cert.KernelIdeal.S_, .f32⟩ : BufTy).Contents (Elt F))) (eq0 (at_ fa0 (i := 134) rfl) :) (eq0 (at_ fb1 (i := 5) rfl) :)
  have e23 : @Eq ((⟨Cert.KernelIdeal.S131072, .f32⟩ : BufTy).Contents (Elt F)) (Φ₁ (Proc.devRef .tc Cert.KernelIdeal.main_v2477)) (Φ₂ (Proc.devRef .tc Cert.ReferenceIdeal.main_v2492)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 6) rfl) :) e22
  have e24 : @Eq ((⟨Cert.KernelIdeal.S131072, .f32⟩ : BufTy).Contents (Elt F)) (Φ₁ (Proc.devRef .tc Cert.KernelIdeal.main_v2478)) (Φ₂ (Proc.devRef .tc Cert.ReferenceIdeal.main_v2493)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 7) rfl) :) e21 e23
  have e25 : @Eq ((⟨Cert.KernelIdeal.S_, .f32⟩ : BufTy).Contents (Elt F)) (Φ₁ (Proc.devRef .tc Cert.KernelIdeal.main_cst_752)) (Φ₂ (Proc.devRef .tc Cert.ReferenceIdeal.main_cst_752)) := step0 (β := ((⟨Cert.KernelIdeal.S_, .f32⟩ : BufTy).Contents (Elt F))) (eq0 (at_ fa0 (i := 137) rfl) :) (eq0 (at_ fb1 (i := 8) rfl) :)
  have e26 : @Eq ((⟨Cert.KernelIdeal.S131072, .f32⟩ : BufTy).Contents (Elt F)) (Φ₁ (Proc.devRef .tc Cert.KernelIdeal.main_v2479)) (Φ₂ (Proc.devRef .tc Cert.ReferenceIdeal.main_v2494)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 9) rfl) :) e25
  have e27 : @Eq ((⟨Cert.KernelIdeal.S131072, .f32⟩ : BufTy).Contents (Elt F)) (Φ₁ (Proc.devRef .tc Cert.KernelIdeal.main_v2480)) (Φ₂ (Proc.devRef .tc Cert.ReferenceIdeal.main_v2495)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 10) rfl) :) e24 e26
  have e28 : @Eq ((⟨Cert.KernelIdeal.S_, .f32⟩ : BufTy).Contents (Elt F)) (Φ₁ (Proc.devRef .tc Cert.KernelIdeal.main_cst_753)) (Φ₂ (Proc.devRef .tc Cert.ReferenceIdeal.main_cst_753)) := step0 (β := ((⟨Cert.KernelIdeal.S_, .f32⟩ : BufTy).Contents (Elt F))) (eq0 (at_ fa0 (i := 140) rfl) :) (eq0 (at_ fb1 (i := 11) rfl) :)
  have e29 : @Eq ((⟨Cert.KernelIdeal.S131072, .f32⟩ : BufTy).Contents (Elt F)) (Φ₁ (Proc.devRef .tc Cert.KernelIdeal.main_v2481)) (Φ₂ (Proc.devRef .tc Cert.ReferenceIdeal.main_v2496)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 12) rfl) :) e28
  have e30 : @Eq ((⟨Cert.KernelIdeal.S131072, .f32⟩ : BufTy).Contents (Elt F)) (Φ₁ (Proc.devRef .tc Cert.KernelIdeal.main_v2482)) (Φ₂ (Proc.devRef .tc Cert.ReferenceIdeal.main_v2497)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 13) rfl) :) e27 e29
  have e31 : @Eq ((⟨Cert.KernelIdeal.S131072, .f32⟩ : BufTy).Contents (Elt F)) (Φ₁ (Proc.devRef .tc Cert.KernelIdeal.main_v2483)) (Φ₂ (Proc.devRef .tc Cert.ReferenceIdeal.main_v2498)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 14) rfl) :) e19
  have e32 : @Eq ((⟨Cert.KernelIdeal.S131072, .f32⟩ : BufTy).Contents (Elt F)) (Φ₁ (Proc.devRef .tc Cert.KernelIdeal.main_v2484)) (Φ₂ (Proc.devRef .tc Cert.ReferenceIdeal.main_v2499)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 15) rfl) :) e30
  have e33 : @Eq ((⟨Cert.KernelIdeal.S131072, .f32⟩ : BufTy).Contents (Elt F)) (Φ₁ (Proc.devRef .tc Cert.KernelIdeal.main_v2485)) (Φ₂ (Proc.devRef .tc Cert.ReferenceIdeal.main_v2500)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 16) rfl) :) e19 e31
  have e34 : @Eq ((⟨Cert.KernelIdeal.S131072, .f32⟩ : BufTy).Contents (Elt F)) (Φ₁ (Proc.devRef .tc Cert.KernelIdeal.main_v2486)) (Φ₂ (Proc.devRef .tc Cert.ReferenceIdeal.main_v2501)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 17) rfl) :) e30 e32
  have e35 : @Eq ((⟨Cert.KernelIdeal.S131072, .i32⟩ : BufTy).Contents (Elt F)) (Φ₁ (Proc.devRef .tc Cert.KernelIdeal.main_v2487)) (Φ₂ (Proc.devRef .tc Cert.ReferenceIdeal.main_v2502)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 18) rfl) :) e31
  have e36 : @Eq ((⟨Cert.KernelIdeal.S_, .i32⟩ : BufTy).Contents (Elt F)) (Φ₁ (Proc.devRef .tc Cert.KernelIdeal.main_c_754)) (Φ₂ (Proc.devRef .tc Cert.ReferenceIdeal.main_c_754)) := step0 (β := ((⟨Cert.KernelIdeal.S_, .i32⟩ : BufTy).Contents (Elt F))) (eq0 (at_ fa0 (i := 148) rfl) :) (eq0 (at_ fb1 (i := 19) rfl) :)
  have e37 : @Eq ((⟨Cert.KernelIdeal.S_, .i32⟩ : BufTy).Contents (Elt F)) (Φ₁ (Proc.devRef .tc Cert.KernelIdeal.main_c_755)) (Φ₂ (Proc.devRef .tc Cert.ReferenceIdeal.main_c_755)) := step0 (β := ((⟨Cert.KernelIdeal.S_, .i32⟩ : BufTy).Contents (Elt F))) (eq0 (at_ fa0 (i := 149) rfl) :) (eq0 (at_ fb1 (i := 20) rfl) :)
  have e38 : @Eq ((⟨Cert.KernelIdeal.S_, .i32⟩ : BufTy).Contents (Elt F)) (Φ₁ (Proc.devRef .tc Cert.KernelIdeal.main_call76_v0)) (Φ₂ (Proc.devRef .tc Cert.ReferenceIdeal.main_call76_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 21) rfl) :) e36
  have e39 : @Eq ((⟨Cert.KernelIdeal.S131072, .i32⟩ : BufTy).Contents (Elt F)) (Φ₁ (Proc.devRef .tc Cert.KernelIdeal.main_call76_v1)) (Φ₂ (Proc.devRef .tc Cert.ReferenceIdeal.main_call76_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 22) rfl) :) e38
  have e40 : @Eq ((⟨Cert.KernelIdeal.S131072, .i32⟩ : BufTy).Contents (Elt F)) (Φ₁ (Proc.devRef .tc Cert.KernelIdeal.main_call76_v2)) (Φ₂ (Proc.devRef .tc Cert.ReferenceIdeal.main_call76_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 23) rfl) :) e39 e35
  have e41 : @Eq ((⟨Cert.KernelIdeal.S_, .i32⟩ : BufTy).Contents (Elt F)) (Φ₁ (Proc.devRef .tc Cert.KernelIdeal.main_call76_v3)) (Φ₂ (Proc.devRef .tc Cert.ReferenceIdeal.main_call76_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 24) rfl) :) e37
  have e42 : @Eq ((⟨Cert.KernelIdeal.S131072, .i32⟩ : BufTy).Contents (Elt F)) (Φ₁ (Proc.devRef .tc Cert.KernelIdeal.main_call76_v4)) (Φ₂ (Proc.devRef .tc Cert.ReferenceIdeal.main_call76_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 25) rfl) :) e41
  have e43 : @Eq ((⟨Cert.KernelIdeal.S131072, .i32⟩ : BufTy).Contents (Elt F)) (Φ₁ (Proc.devRef .tc Cert.KernelIdeal.main_v2488)) (Φ₂ (Proc.devRef .tc Cert.ReferenceIdeal.main_v2503)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 26) rfl) :) e42 e40
  have e44 : @Eq ((⟨Cert.KernelIdeal.S_, .i32⟩ : BufTy).Contents (Elt F)) (Φ₁ (Proc.devRef .tc Cert.KernelIdeal.main_c_756)) (Φ₂ (Proc.devRef .tc Cert.ReferenceIdeal.main_c_756)) := step0 (β := ((⟨Cert.KernelIdeal.S_, .i32⟩ : BufTy).Contents (Elt F))) (eq0 (at_ fa2 (i := 0) rfl) :) (eq0 (at_ fb1 (i := 27) rfl) :)
  have e45 : @Eq ((⟨Cert.KernelIdeal.S131072, .i32⟩ : BufTy).Contents (Elt F)) (Φ₁ (Proc.devRef .tc Cert.KernelIdeal.main_v2489)) (Φ₂ (Proc.devRef .tc Cert.ReferenceIdeal.main_v2504)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 28) rfl) :) e44
  have e46 : @Eq ((⟨Cert.KernelIdeal.S131072, .i32⟩ : BufTy).Contents (Elt F)) (Φ₁ (Proc.devRef .tc Cert.KernelIdeal.main_v2490)) (Φ₂ (Proc.devRef .tc Cert.ReferenceIdeal.main_v2505)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 29) rfl) :) e43 e45
  have e47 : @Eq ((⟨Cert.KernelIdeal.S_, .i32⟩ : BufTy).Contents (Elt F)) (Φ₁ (Proc.devRef .tc Cert.KernelIdeal.main_c_757)) (Φ₂ (Proc.devRef .tc Cert.ReferenceIdeal.main_c_757)) := step0 (β := ((⟨Cert.KernelIdeal.S_, .i32⟩ : BufTy).Contents (Elt F))) (eq0 (at_ fa2 (i := 3) rfl) :) (eq0 (at_ fb1 (i := 30) rfl) :)
  have e48 : @Eq ((⟨Cert.KernelIdeal.S_, .i32⟩ : BufTy).Contents (Elt F)) (Φ₁ (Proc.devRef .tc Cert.KernelIdeal.main_c_758)) (Φ₂ (Proc.devRef .tc Cert.ReferenceIdeal.main_c_758)) := step0 (β := ((⟨Cert.KernelIdeal.S_, .i32⟩ : BufTy).Contents (Elt F))) (eq0 (at_ fa2 (i := 4) rfl) :) (eq0 (at_ fb1 (i := 31) rfl) :)
  have e49 : @Eq ((⟨Cert.KernelIdeal.S_, .i32⟩ : BufTy).Contents (Elt F)) (Φ₁ (Proc.devRef .tc Cert.KernelIdeal.main_call77_v0)) (Φ₂ (Proc.devRef .tc Cert.ReferenceIdeal.main_call77_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 32) rfl) :) e47
  have e50 : @Eq ((⟨Cert.KernelIdeal.S131072, .i32⟩ : BufTy).Contents (Elt F)) (Φ₁ (Proc.devRef .tc Cert.KernelIdeal.main_call77_v1)) (Φ₂ (Proc.devRef .tc Cert.ReferenceIdeal.main_call77_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 33) rfl) :) e49
  have e51 : @Eq ((⟨Cert.KernelIdeal.S131072, .i32⟩ : BufTy).Contents (Elt F)) (Φ₁ (Proc.devRef .tc Cert.KernelIdeal.main_call77_v2)) (Φ₂ (Proc.devRef .tc Cert.ReferenceIdeal.main_call77_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 34) rfl) :) e50 e46
  have e52 : @Eq ((⟨Cert.KernelIdeal.S_, .i32⟩ : BufTy).Contents (Elt F)) (Φ₁ (Proc.devRef .tc Cert.KernelIdeal.main_call77_v3)) (Φ₂ (Proc.devRef .tc Cert.ReferenceIdeal.main_call77_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 35) rfl) :) e48
  have e53 : @Eq ((⟨Cert.KernelIdeal.S131072, .i32⟩ : BufTy).Contents (Elt F)) (Φ₁ (Proc.devRef .tc Cert.KernelIdeal.main_call77_v4)) (Φ₂ (Proc.devRef .tc Cert.ReferenceIdeal.main_call77_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 36) rfl) :) e52
  have e54 : @Eq ((⟨Cert.KernelIdeal.S131072, .i32⟩ : BufTy).Contents (Elt F)) (Φ₁ (Proc.devRef .tc Cert.KernelIdeal.main_v2491)) (Φ₂ (Proc.devRef .tc Cert.ReferenceIdeal.main_v2506)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 37) rfl) :) e53 e51
  have e55 : @Eq ((⟨Cert.KernelIdeal.S131072, .i32⟩ : BufTy).Contents (Elt F)) (Φ₁ (Proc.devRef .tc Cert.KernelIdeal.main_v2492)) (Φ₂ (Proc.devRef .tc Cert.ReferenceIdeal.main_v2507)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 38) rfl) :) e32
  have e56 : @Eq ((⟨Cert.KernelIdeal.S_, .i32⟩ : BufTy).Contents (Elt F)) (Φ₁ (Proc.devRef .tc Cert.KernelIdeal.main_c_759)) (Φ₂ (Proc.devRef .tc Cert.ReferenceIdeal.main_c_759)) := step0 (β := ((⟨Cert.KernelIdeal.S_, .i32⟩ : BufTy).Contents (Elt F))) (eq0 (at_ fa4 (i := 1) rfl) :) (eq0 (at_ fb1 (i := 39) rfl) :)
  have e57 : @Eq ((⟨Cert.KernelIdeal.S_, .i32⟩ : BufTy).Contents (Elt F)) (Φ₁ (Proc.devRef .tc Cert.KernelIdeal.main_c_760)) (Φ₂ (Proc.devRef .tc Cert.ReferenceIdeal.main_c_760)) := step0 (β := ((⟨Cert.KernelIdeal.S_, .i32⟩ : BufTy).Contents (Elt F))) (eq0 (at_ fa4 (i := 2) rfl) :) (eq0 (at_ fb1 (i := 40) rfl) :)
  have e58 : @Eq ((⟨Cert.KernelIdeal.S_, .i32⟩ : BufTy).Contents (Elt F)) (Φ₁ (Proc.devRef .tc Cert.KernelIdeal.main_call78_v0)) (Φ₂ (Proc.devRef .tc Cert.ReferenceIdeal.main_call78_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 41) rfl) :) e56
  have e59 : @Eq ((⟨Cert.KernelIdeal.S131072, .i32⟩ : BufTy).Contents (Elt F)) (Φ₁ (Proc.devRef .tc Cert.KernelIdeal.main_call78_v1)) (Φ₂ (Proc.devRef .tc Cert.ReferenceIdeal.main_call78_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 42) rfl) :) e58
  have e60 : @Eq ((⟨Cert.KernelIdeal.S131072, .i32⟩ : BufTy).Contents (Elt F)) (Φ₁ (Proc.devRef .tc Cert.KernelIdeal.main_call78_v2)) (Φ₂ (Proc.devRef .tc Cert.ReferenceIdeal.main_call78_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 43) rfl) :) e59 e55
  have e61 : @Eq ((⟨Cert.KernelIdeal.S_, .i32⟩ : BufTy).Contents (Elt F)) (Φ₁ (Proc.devRef .tc Cert.KernelIdeal.main_call78_v3)) (Φ₂ (Proc.devRef .tc Cert.ReferenceIdeal.main_call78_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 44) rfl) :) e57
  have e62 : @Eq ((⟨Cert.KernelIdeal.S131072, .i32⟩ : BufTy).Contents (Elt F)) (Φ₁ (Proc.devRef .tc Cert.KernelIdeal.main_call78_v4)) (Φ₂ (Proc.devRef .tc Cert.ReferenceIdeal.main_call78_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 45) rfl) :) e61
  have e63 : @Eq ((⟨Cert.KernelIdeal.S131072, .i32⟩ : BufTy).Contents (Elt F)) (Φ₁ (Proc.devRef .tc Cert.KernelIdeal.main_v2493)) (Φ₂ (Proc.devRef .tc Cert.ReferenceIdeal.main_v2508)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 46) rfl) :) e62 e60
  have e64 : @Eq ((⟨Cert.KernelIdeal.S_, .i32⟩ : BufTy).Contents (Elt F)) (Φ₁ (Proc.devRef .tc Cert.KernelIdeal.main_c_761)) (Φ₂ (Proc.devRef .tc Cert.ReferenceIdeal.main_c_761)) := step0 (β := ((⟨Cert.KernelIdeal.S_, .i32⟩ : BufTy).Contents (Elt F))) (eq0 (at_ fa6 (i := 0) rfl) :) (eq0 (at_ fb1 (i := 47) rfl) :)
  have e65 : @Eq ((⟨Cert.KernelIdeal.S131072, .i32⟩ : BufTy).Contents (Elt F)) (Φ₁ (Proc.devRef .tc Cert.KernelIdeal.main_v2494)) (Φ₂ (Proc.devRef .tc Cert.ReferenceIdeal.main_v2509)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 48) rfl) :) e64
  have e66 : @Eq ((⟨Cert.KernelIdeal.S131072, .i32⟩ : BufTy).Contents (Elt F)) (Φ₁ (Proc.devRef .tc Cert.KernelIdeal.main_v2495)) (Φ₂ (Proc.devRef .tc Cert.ReferenceIdeal.main_v2510)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 49) rfl) :) e63 e65
  have e67 : @Eq ((⟨Cert.KernelIdeal.S_, .i32⟩ : BufTy).Contents (Elt F)) (Φ₁ (Proc.devRef .tc Cert.KernelIdeal.main_c_762)) (Φ₂ (Proc.devRef .tc Cert.ReferenceIdeal.main_c_762)) := step0 (β := ((⟨Cert.KernelIdeal.S_, .i32⟩ : BufTy).Contents (Elt F))) (eq0 (at_ fa6 (i := 3) rfl) :) (eq0 (at_ fb1 (i := 50) rfl) :)
  have e68 : @Eq ((⟨Cert.KernelIdeal.S_, .i32⟩ : BufTy).Contents (Elt F)) (Φ₁ (Proc.devRef .tc Cert.KernelIdeal.main_c_763)) (Φ₂ (Proc.devRef .tc Cert.ReferenceIdeal.main_c_763)) := step0 (β := ((⟨Cert.KernelIdeal.S_, .i32⟩ : BufTy).Contents (Elt F))) (eq0 (at_ fa6 (i := 4) rfl) :) (eq0 (at_ fb1 (i := 51) rfl) :)
  have e69 : @Eq ((⟨Cert.KernelIdeal.S_, .i32⟩ : BufTy).Contents (Elt F)) (Φ₁ (Proc.devRef .tc Cert.KernelIdeal.main_call79_v0)) (Φ₂ (Proc.devRef .tc Cert.ReferenceIdeal.main_call79_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 52) rfl) :) e67
  have e70 : @Eq ((⟨Cert.KernelIdeal.S131072, .i32⟩ : BufTy).Contents (Elt F)) (Φ₁ (Proc.devRef .tc Cert.KernelIdeal.main_call79_v1)) (Φ₂ (Proc.devRef .tc Cert.ReferenceIdeal.main_call79_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 53) rfl) :) e69
  have e71 : @Eq ((⟨Cert.KernelIdeal.S131072, .i32⟩ : BufTy).Contents (Elt F)) (Φ₁ (Proc.devRef .tc Cert.KernelIdeal.main_call79_v2)) (Φ₂ (Proc.devRef .tc Cert.ReferenceIdeal.main_call79_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 54) rfl) :) e70 e66
  have e72 : @Eq ((⟨Cert.KernelIdeal.S_, .i32⟩ : BufTy).Contents (Elt F)) (Φ₁ (Proc.devRef .tc Cert.KernelIdeal.main_call79_v3)) (Φ₂ (Proc.devRef .tc Cert.ReferenceIdeal.main_call79_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 55) rfl) :) e68
  have e73 : @Eq ((⟨Cert.KernelIdeal.S131072, .i32⟩ : BufTy).Contents (Elt F)) (Φ₁ (Proc.devRef .tc Cert.KernelIdeal.main_call79_v4)) (Φ₂ (Proc.devRef .tc Cert.ReferenceIdeal.main_call79_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 56) rfl) :) e72
  have e74 : @Eq ((⟨Cert.KernelIdeal.S131072, .i32⟩ : BufTy).Contents (Elt F)) (Φ₁ (Proc.devRef .tc Cert.KernelIdeal.main_v2496)) (Φ₂ (Proc.devRef .tc Cert.ReferenceIdeal.main_v2511)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 57) rfl) :) e73 e71
  have e75 : @Eq ((⟨Cert.KernelIdeal.S_, .i32⟩ : BufTy).Contents (Elt F)) (Φ₁ (Proc.devRef .tc Cert.KernelIdeal.main_c_764)) (Φ₂ (Proc.devRef .tc Cert.ReferenceIdeal.main_c_764)) := step0 (β := ((⟨Cert.KernelIdeal.S_, .i32⟩ : BufTy).Contents (Elt F))) (eq0 (at_ fa8 (i := 0) rfl) :) (eq0 (at_ fb1 (i := 58) rfl) :)
  have e76 : @Eq ((⟨Cert.KernelIdeal.S131072, .i32⟩ : BufTy).Contents (Elt F)) (Φ₁ (Proc.devRef .tc Cert.KernelIdeal.main_v2497)) (Φ₂ (Proc.devRef .tc Cert.ReferenceIdeal.main_v2512)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 59) rfl) :) e75
  have e77 : @Eq ((⟨Cert.KernelIdeal.S131072, .i1⟩ : BufTy).Contents (Elt F)) (Φ₁ (Proc.devRef .tc Cert.KernelIdeal.main_v2498)) (Φ₂ (Proc.devRef .tc Cert.ReferenceIdeal.main_v2513)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 60) rfl) :) e63 e76
  have e78 : @Eq ((⟨Cert.KernelIdeal.S_, .i32⟩ : BufTy).Contents (Elt F)) (Φ₁ (Proc.devRef .tc Cert.KernelIdeal.main_c_765)) (Φ₂ (Proc.devRef .tc Cert.ReferenceIdeal.main_c_765)) := step0 (β := ((⟨Cert.KernelIdeal.S_, .i32⟩ : BufTy).Contents (Elt F))) (eq0 (at_ fa8 (i := 3) rfl) :) (eq0 (at_ fb1 (i := 61) rfl) :)
  have e79 : @Eq ((⟨Cert.KernelIdeal.S131072, .i32⟩ : BufTy).Contents (Elt F)) (Φ₁ (Proc.devRef .tc Cert.KernelIdeal.main_v2499)) (Φ₂ (Proc.devRef .tc Cert.ReferenceIdeal.main_v2514)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 62) rfl) :) e78
  have e80 : @Eq ((⟨Cert.KernelIdeal.S131072, .i32⟩ : BufTy).Contents (Elt F)) (Φ₁ (Proc.devRef .tc Cert.KernelIdeal.main_v2500)) (Φ₂ (Proc.devRef .tc Cert.ReferenceIdeal.main_v2515)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 63) rfl) :) e63 e79
  have e81 : @Eq ((⟨Cert.KernelIdeal.S131072, .i32⟩ : BufTy).Contents (Elt F)) (Φ₁ (Proc.devRef .tc Cert.KernelIdeal.main_v2501)) (Φ₂ (Proc.devRef .tc Cert.ReferenceIdeal.main_v2516)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 64) rfl) :) e77 e80 e63
  have e82 : @Eq ((⟨Cert.KernelIdeal.S_, .i32⟩ : BufTy).Contents (Elt F)) (Φ₁ (Proc.devRef .tc Cert.KernelIdeal.main_c_766)) (Φ₂ (Proc.devRef .tc Cert.ReferenceIdeal.main_c_766)) := step0 (β := ((⟨Cert.KernelIdeal.S_, .i32⟩ : BufTy).Contents (Elt F))) (eq0 (at_ fa8 (i := 7) rfl) :) (eq0 (at_ fb1 (i := 65) rfl) :)
  have e83 : @Eq ((⟨Cert.KernelIdeal.S131072, .i32⟩ : BufTy).Contents (Elt F)) (Φ₁ (Proc.devRef .tc Cert.KernelIdeal.main_v2502)) (Φ₂ (Proc.devRef .tc Cert.ReferenceIdeal.main_v2517)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 66) rfl) :) e82
  have e84 : @Eq ((⟨Cert.KernelIdeal.S131072, .i1⟩ : BufTy).Contents (Elt F)) (Φ₁ (Proc.devRef .tc Cert.KernelIdeal.main_v2503)) (Φ₂ (Proc.devRef .tc Cert.ReferenceIdeal.main_v2518)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 67) rfl) :) e43 e83
  have e85 : @Eq ((⟨Cert.KernelIdeal.S_, .i32⟩ : BufTy).Contents (Elt F)) (Φ₁ (Proc.devRef .tc Cert.KernelIdeal.main_c_767)) (Φ₂ (Proc.devRef .tc Cert.ReferenceIdeal.main_c_767)) := step0 (β := ((⟨Cert.KernelIdeal.S_, .i32⟩ : BufTy).Contents (Elt F))) (eq0 (at_ fa8 (i := 10) rfl) :) (eq0 (at_ fb1 (i := 68) rfl) :)
  have e86 : @Eq ((⟨Cert.KernelIdeal.S131072, .i32⟩ : BufTy).Contents (Elt F)) (Φ₁ (Proc.devRef .tc Cert.KernelIdeal.main_v2504)) (Φ₂ (Proc.devRef .tc Cert.ReferenceIdeal.main_v2519)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 69) rfl) :) e85
  have e87 : @Eq ((⟨Cert.KernelIdeal.S131072, .i32⟩ : BufTy).Contents (Elt F)) (Φ₁ (Proc.devRef .tc Cert.KernelIdeal.main_v2505)) (Φ₂ (Proc.devRef .tc Cert.ReferenceIdeal.main_v2520)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 70) rfl) :) e43 e86
  have e88 : @Eq ((⟨Cert.KernelIdeal.S131072, .i32⟩ : BufTy).Contents (Elt F)) (Φ₁ (Proc.devRef .tc Cert.KernelIdeal.main_v2506)) (Φ₂ (Proc.devRef .tc Cert.ReferenceIdeal.main_v2521)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 71) rfl) :) e84 e87 e43
  have e89 : @Eq ((⟨Cert.KernelIdeal.S131072x1, .i32⟩ : BufTy).Contents (Elt F)) (Φ₁ (Proc.devRef .tc Cert.KernelIdeal.main_v2507)) (Φ₂ (Proc.devRef .tc Cert.ReferenceIdeal.main_v2522)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 72) rfl) :) e81
  have e90 : @Eq ((⟨Cert.KernelIdeal.S131072x1, .i32⟩ : BufTy).Contents (Elt F)) (Φ₁ (Proc.devRef .tc Cert.KernelIdeal.main_v2508)) (Φ₂ (Proc.devRef .tc Cert.ReferenceIdeal.main_v2523)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 73) rfl) :) e88
  have e91 : @Eq ((⟨Cert.KernelIdeal.S131072x2, .i32⟩ : BufTy).Contents (Elt F)) (Φ₁ (Proc.devRef .tc Cert.KernelIdeal.main_v2509)) (Φ₂ (Proc.devRef .tc Cert.ReferenceIdeal.main_v2524)) := by rw [eq2 (at_ fa8 (i := 16) rfl), eq2 (at_ fb1 (i := 74) rfl), e89, e90] <;> rfl
  have e92 : @Eq ((⟨Cert.KernelIdeal.S32x131072, .f32⟩ : BufTy).Contents (Elt F)) (Φ₁ (Proc.devRef .tc Cert.KernelIdeal.main_v2510)) (Φ₂ (Proc.devRef .tc Cert.ReferenceIdeal.main_v2525)) := by rw [eq2 (at_ fa8 (i := 17) rfl), eq2 (at_ fb1 (i := 75) rfl), x2, e91] <;> rfl
  have e93 : @Eq ((⟨Cert.KernelIdeal.S_, .i32⟩ : BufTy).Contents (Elt F)) (Φ₁ (Proc.devRef .tc Cert.KernelIdeal.main_c_768)) (Φ₂ (Proc.devRef .tc Cert.ReferenceIdeal.main_c_768)) := step0 (β := ((⟨Cert.KernelIdeal.S_, .i32⟩ : BufTy).Contents (Elt F))) (eq0 (at_ fa8 (i := 18) rfl) :) (eq0 (at_ fb1 (i := 76) rfl) :)
  have e94 : @Eq ((⟨Cert.KernelIdeal.S131072, .i32⟩ : BufTy).Contents (Elt F)) (Φ₁ (Proc.devRef .tc Cert.KernelIdeal.main_v2511)) (Φ₂ (Proc.devRef .tc Cert.ReferenceIdeal.main_v2526)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 77) rfl) :) e93
  have e95 : @Eq ((⟨Cert.KernelIdeal.S131072, .i1⟩ : BufTy).Contents (Elt F)) (Φ₁ (Proc.devRef .tc Cert.KernelIdeal.main_v2512)) (Φ₂ (Proc.devRef .tc Cert.ReferenceIdeal.main_v2527)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 78) rfl) :) e63 e94
  have e96 : @Eq ((⟨Cert.KernelIdeal.S_, .i32⟩ : BufTy).Contents (Elt F)) (Φ₁ (Proc.devRef .tc Cert.KernelIdeal.main_c_769)) (Φ₂ (Proc.devRef .tc Cert.ReferenceIdeal.main_c_769)) := step0 (β := ((⟨Cert.KernelIdeal.S_, .i32⟩ : BufTy).Contents (Elt F))) (eq0 (at_ fa8 (i := 21) rfl) :) (eq0 (at_ fb1 (i := 79) rfl) :)
  have e97 : @Eq ((⟨Cert.KernelIdeal.S131072, .i32⟩ : BufTy).Contents (Elt F)) (Φ₁ (Proc.devRef .tc Cert.KernelIdeal.main_v2513)) (Φ₂ (Proc.devRef .tc Cert.ReferenceIdeal.main_v2528)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 0) rfl) :) e96
  have e98 : @Eq ((⟨Cert.KernelIdeal.S131072, .i32⟩ : BufTy).Contents (Elt F)) (Φ₁ (Proc.devRef .tc Cert.KernelIdeal.main_v2514)) (Φ₂ (Proc.devRef .tc Cert.ReferenceIdeal.main_v2529)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 1) rfl) :) e63 e97
  have e99 : @Eq ((⟨Cert.KernelIdeal.S131072, .i32⟩ : BufTy).Contents (Elt F)) (Φ₁ (Proc.devRef .tc Cert.KernelIdeal.main_v2515)) (Φ₂ (Proc.devRef .tc Cert.ReferenceIdeal.main_v2530)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 2) rfl) :) e95 e98 e63
  have e100 : @Eq ((⟨Cert.KernelIdeal.S_, .i32⟩ : BufTy).Contents (Elt F)) (Φ₁ (Proc.devRef .tc Cert.KernelIdeal.main_c_770)) (Φ₂ (Proc.devRef .tc Cert.ReferenceIdeal.main_c_770)) := step0 (β := ((⟨Cert.KernelIdeal.S_, .i32⟩ : BufTy).Contents (Elt F))) (eq0 (at_ fa8 (i := 25) rfl) :) (eq0 (at_ fb2 (i := 3) rfl) :)
  have e101 : @Eq ((⟨Cert.KernelIdeal.S131072, .i32⟩ : BufTy).Contents (Elt F)) (Φ₁ (Proc.devRef .tc Cert.KernelIdeal.main_v2516)) (Φ₂ (Proc.devRef .tc Cert.ReferenceIdeal.main_v2531)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 4) rfl) :) e100
  have e102 : @Eq ((⟨Cert.KernelIdeal.S131072, .i1⟩ : BufTy).Contents (Elt F)) (Φ₁ (Proc.devRef .tc Cert.KernelIdeal.main_v2517)) (Φ₂ (Proc.devRef .tc Cert.ReferenceIdeal.main_v2532)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 5) rfl) :) e54 e101
  have e103 : @Eq ((⟨Cert.KernelIdeal.S_, .i32⟩ : BufTy).Contents (Elt F)) (Φ₁ (Proc.devRef .tc Cert.KernelIdeal.main_c_771)) (Φ₂ (Proc.devRef .tc Cert.ReferenceIdeal.main_c_771)) := step0 (β := ((⟨Cert.KernelIdeal.S_, .i32⟩ : BufTy).Contents (Elt F))) (eq0 (at_ fa8 (i := 28) rfl) :) (eq0 (at_ fb2 (i := 6) rfl) :)
  have e104 : @Eq ((⟨Cert.KernelIdeal.S131072, .i32⟩ : BufTy).Contents (Elt F)) (Φ₁ (Proc.devRef .tc Cert.KernelIdeal.main_v2518)) (Φ₂ (Proc.devRef .tc Cert.ReferenceIdeal.main_v2533)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 7) rfl) :) e103
  have e105 : @Eq ((⟨Cert.KernelIdeal.S131072, .i32⟩ : BufTy).Contents (Elt F)) (Φ₁ (Proc.devRef .tc Cert.KernelIdeal.main_v2519)) (Φ₂ (Proc.devRef .tc Cert.ReferenceIdeal.main_v2534)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 8) rfl) :) e54 e104
  have e106 : @Eq ((⟨Cert.KernelIdeal.S131072, .i32⟩ : BufTy).Contents (Elt F)) (Φ₁ (Proc.devRef .tc Cert.KernelIdeal.main_v2520)) (Φ₂ (Proc.devRef .tc Cert.ReferenceIdeal.main_v2535)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 9) rfl) :) e102 e105 e54
  have e107 : @Eq ((⟨Cert.KernelIdeal.S131072x1, .i32⟩ : BufTy).Contents (Elt F)) (Φ₁ (Proc.devRef .tc Cert.KernelIdeal.main_v2521)) (Φ₂ (Proc.devRef .tc Cert.ReferenceIdeal.main_v2536)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 10) rfl) :) e99
  have e108 : @Eq ((⟨Cert.KernelIdeal.S131072x1, .i32⟩ : BufTy).Contents (Elt F)) (Φ₁ (Proc.devRef .tc Cert.KernelIdeal.main_v2522)) (Φ₂ (Proc.devRef .tc Cert.ReferenceIdeal.main_v2537)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 11) rfl) :) e106
  have e109 : @Eq ((⟨Cert.KernelIdeal.S131072x2, .i32⟩ : BufTy).Contents (Elt F)) (Φ₁ (Proc.devRef .tc Cert.KernelIdeal.main_v2523)) (Φ₂ (Proc.devRef .tc Cert.ReferenceIdeal.main_v2538)) := by rw [eq2 (at_ fa8 (i := 34) rfl), eq2 (at_ fb2 (i := 12) rfl), e107, e108] <;> rfl
  have e110 : @Eq ((⟨Cert.KernelIdeal.S32x131072, .f32⟩ : BufTy).Contents (Elt F)) (Φ₁ (Proc.devRef .tc Cert.KernelIdeal.main_v2524)) (Φ₂ (Proc.devRef .tc Cert.ReferenceIdeal.main_v2539)) := by rw [eq2 (at_ fa8 (i := 35) rfl), eq2 (at_ fb2 (i := 13) rfl), x2, e109] <;> rfl
  have e111 : @Eq ((⟨Cert.KernelIdeal.S_, .i32⟩ : BufTy).Contents (Elt F)) (Φ₁ (Proc.devRef .tc Cert.KernelIdeal.main_c_772)) (Φ₂ (Proc.devRef .tc Cert.ReferenceIdeal.main_c_772)) := step0 (β := ((⟨Cert.KernelIdeal.S_, .i32⟩ : BufTy).Contents (Elt F))) (eq0 (at_ fa8 (i := 36) rfl) :) (eq0 (at_ fb2 (i := 14) rfl) :)
  have e112 : @Eq ((⟨Cert.KernelIdeal.S131072, .i32⟩ : BufTy).Contents (Elt F)) (Φ₁ (Proc.devRef .tc Cert.KernelIdeal.main_v2525)) (Φ₂ (Proc.devRef .tc Cert.ReferenceIdeal.main_v2540)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 15) rfl) :) e111
  have e113 : @Eq ((⟨Cert.KernelIdeal.S131072, .i1⟩ : BufTy).Contents (Elt F)) (Φ₁ (Proc.devRef .tc Cert.KernelIdeal.main_v2526)) (Φ₂ (Proc.devRef .tc Cert.ReferenceIdeal.main_v2541)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 16) rfl) :) e74 e112
  have e114 : @Eq ((⟨Cert.KernelIdeal.S_, .i32⟩ : BufTy).Contents (Elt F)) (Φ₁ (Proc.devRef .tc Cert.KernelIdeal.main_c_773)) (Φ₂ (Proc.devRef .tc Cert.ReferenceIdeal.main_c_773)) := step0 (β := ((⟨Cert.KernelIdeal.S_, .i32⟩ : BufTy).Contents (Elt F))) (eq0 (at_ fa8 (i := 39) rfl) :) (eq0 (at_ fb2 (i := 17) rfl) :)
  have e115 : @Eq ((⟨Cert.KernelIdeal.S131072, .i32⟩ : BufTy).Contents (Elt F)) (Φ₁ (Proc.devRef .tc Cert.KernelIdeal.main_v2527)) (Φ₂ (Proc.devRef .tc Cert.ReferenceIdeal.main_v2542)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 18) rfl) :) e114
  have e116 : @Eq ((⟨Cert.KernelIdeal.S131072, .i32⟩ : BufTy).Contents (Elt F)) (Φ₁ (Proc.devRef .tc Cert.KernelIdeal.main_v2528)) (Φ₂ (Proc.devRef .tc Cert.ReferenceIdeal.main_v2543)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 19) rfl) :) e74 e115
  have e117 : @Eq ((⟨Cert.KernelIdeal.S131072, .i32⟩ : BufTy).Contents (Elt F)) (Φ₁ (Proc.devRef .tc Cert.KernelIdeal.main_v2529)) (Φ₂ (Proc.devRef .tc Cert.ReferenceIdeal.main_v2544)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 20) rfl) :) e113 e116 e74
  have e118 : @Eq ((⟨Cert.KernelIdeal.S_, .i32⟩ : BufTy).Contents (Elt F)) (Φ₁ (Proc.devRef .tc Cert.KernelIdeal.main_c_774)) (Φ₂ (Proc.devRef .tc Cert.ReferenceIdeal.main_c_774)) := step0 (β := ((⟨Cert.KernelIdeal.S_, .i32⟩ : BufTy).Contents (Elt F))) (eq0 (at_ fa8 (i := 43) rfl) :) (eq0 (at_ fb2 (i := 21) rfl) :)
  have e119 : @Eq ((⟨Cert.KernelIdeal.S131072, .i32⟩ : BufTy).Contents (Elt F)) (Φ₁ (Proc.devRef .tc Cert.KernelIdeal.main_v2530)) (Φ₂ (Proc.devRef .tc Cert.ReferenceIdeal.main_v2545)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 22) rfl) :) e118
  have e120 : @Eq ((⟨Cert.KernelIdeal.S131072, .i1⟩ : BufTy).Contents (Elt F)) (Φ₁ (Proc.devRef .tc Cert.KernelIdeal.main_v2531)) (Φ₂ (Proc.devRef .tc Cert.ReferenceIdeal.main_v2546)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 23) rfl) :) e43 e119
  have e121 : @Eq ((⟨Cert.KernelIdeal.S_, .i32⟩ : BufTy).Contents (Elt F)) (Φ₁ (Proc.devRef .tc Cert.KernelIdeal.main_c_775)) (Φ₂ (Proc.devRef .tc Cert.ReferenceIdeal.main_c_775)) := step0 (β := ((⟨Cert.KernelIdeal.S_, .i32⟩ : BufTy).Contents (Elt F))) (eq0 (at_ fa8 (i := 46) rfl) :) (eq0 (at_ fb2 (i := 24) rfl) :)
  have e122 : @Eq ((⟨Cert.KernelIdeal.S131072, .i32⟩ : BufTy).Contents (Elt F)) (Φ₁ (Proc.devRef .tc Cert.KernelIdeal.main_v2532)) (Φ₂ (Proc.devRef .tc Cert.ReferenceIdeal.main_v2547)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 25) rfl) :) e121
  have e123 : @Eq ((⟨Cert.KernelIdeal.S131072, .i32⟩ : BufTy).Contents (Elt F)) (Φ₁ (Proc.devRef .tc Cert.KernelIdeal.main_v2533)) (Φ₂ (Proc.devRef .tc Cert.ReferenceIdeal.main_v2548)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 26) rfl) :) e43 e122
  have e124 : @Eq ((⟨Cert.KernelIdeal.S131072, .i32⟩ : BufTy).Contents (Elt F)) (Φ₁ (Proc.devRef .tc Cert.KernelIdeal.main_v2534)) (Φ₂ (Proc.devRef .tc Cert.ReferenceIdeal.main_v2549)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 27) rfl) :) e120 e123 e43
  have e125 : @Eq ((⟨Cert.KernelIdeal.S131072x1, .i32⟩ : BufTy).Contents (Elt F)) (Φ₁ (Proc.devRef .tc Cert.KernelIdeal.main_v2535)) (Φ₂ (Proc.devRef .tc Cert.ReferenceIdeal.main_v2550)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 28) rfl) :) e117
  have e126 : @Eq ((⟨Cert.KernelIdeal.S131072x1, .i32⟩ : BufTy).Contents (Elt F)) (Φ₁ (Proc.devRef .tc Cert.KernelIdeal.main_v2536)) (Φ₂ (Proc.devRef .tc Cert.ReferenceIdeal.main_v2551)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 29) rfl) :) e124
  have e127 : @Eq ((⟨Cert.KernelIdeal.S131072x2, .i32⟩ : BufTy).Contents (Elt F)) (Φ₁ (Proc.devRef .tc Cert.KernelIdeal.main_v2537)) (Φ₂ (Proc.devRef .tc Cert.ReferenceIdeal.main_v2552)) := by rw [eq2 (at_ fa8 (i := 52) rfl), eq2 (at_ fb2 (i := 30) rfl), e125, e126] <;> rfl
  have e128 : @Eq ((⟨Cert.KernelIdeal.S32x131072, .f32⟩ : BufTy).Contents (Elt F)) (Φ₁ (Proc.devRef .tc Cert.KernelIdeal.main_v2538)) (Φ₂ (Proc.devRef .tc Cert.ReferenceIdeal.main_v2553)) := by rw [eq2 (at_ fa8 (i := 53) rfl), eq2 (at_ fb2 (i := 31) rfl), x2, e127] <;> rfl
  have e129 : @Eq ((⟨Cert.KernelIdeal.S_, .i32⟩ : BufTy).Contents (Elt F)) (Φ₁ (Proc.devRef .tc Cert.KernelIdeal.main_c_776)) (Φ₂ (Proc.devRef .tc Cert.ReferenceIdeal.main_c_776)) := step0 (β := ((⟨Cert.KernelIdeal.S_, .i32⟩ : BufTy).Contents (Elt F))) (eq0 (at_ fa8 (i := 54) rfl) :) (eq0 (at_ fb2 (i := 32) rfl) :)
  have e130 : @Eq ((⟨Cert.KernelIdeal.S131072, .i32⟩ : BufTy).Contents (Elt F)) (Φ₁ (Proc.devRef .tc Cert.KernelIdeal.main_v2539)) (Φ₂ (Proc.devRef .tc Cert.ReferenceIdeal.main_v2554)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 33) rfl) :) e129
  have e131 : @Eq ((⟨Cert.KernelIdeal.S131072, .i1⟩ : BufTy).Contents (Elt F)) (Φ₁ (Proc.devRef .tc Cert.KernelIdeal.main_v2540)) (Φ₂ (Proc.devRef .tc Cert.ReferenceIdeal.main_v2555)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 34) rfl) :) e74 e130
  have e132 : @Eq ((⟨Cert.KernelIdeal.S_, .i32⟩ : BufTy).Contents (Elt F)) (Φ₁ (Proc.devRef .tc Cert.KernelIdeal.main_c_777)) (Φ₂ (Proc.devRef .tc Cert.ReferenceIdeal.main_c_777)) := step0 (β := ((⟨Cert.KernelIdeal.S_, .i32⟩ : BufTy).Contents (Elt F))) (eq0 (at_ fa8 (i := 57) rfl) :) (eq0 (at_ fb2 (i := 35) rfl) :)
  have e133 : @Eq ((⟨Cert.KernelIdeal.S131072, .i32⟩ : BufTy).Contents (Elt F)) (Φ₁ (Proc.devRef .tc Cert.KernelIdeal.main_v2541)) (Φ₂ (Proc.devRef .tc Cert.ReferenceIdeal.main_v2556)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 36) rfl) :) e132
  have e134 : @Eq ((⟨Cert.KernelIdeal.S131072, .i32⟩ : BufTy).Contents (Elt F)) (Φ₁ (Proc.devRef .tc Cert.KernelIdeal.main_v2542)) (Φ₂ (Proc.devRef .tc Cert.ReferenceIdeal.main_v2557)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 37) rfl) :) e74 e133
  have e135 : @Eq ((⟨Cert.KernelIdeal.S131072, .i32⟩ : BufTy).Contents (Elt F)) (Φ₁ (Proc.devRef .tc Cert.KernelIdeal.main_v2543)) (Φ₂ (Proc.devRef .tc Cert.ReferenceIdeal.main_v2558)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 38) rfl) :) e131 e134 e74
  have e136 : @Eq ((⟨Cert.KernelIdeal.S_, .i32⟩ : BufTy).Contents (Elt F)) (Φ₁ (Proc.devRef .tc Cert.KernelIdeal.main_c_778)) (Φ₂ (Proc.devRef .tc Cert.ReferenceIdeal.main_c_778)) := step0 (β := ((⟨Cert.KernelIdeal.S_, .i32⟩ : BufTy).Contents (Elt F))) (eq0 (at_ fa8 (i := 61) rfl) :) (eq0 (at_ fb2 (i := 39) rfl) :)
  have e137 : @Eq ((⟨Cert.KernelIdeal.S131072, .i32⟩ : BufTy).Contents (Elt F)) (Φ₁ (Proc.devRef .tc Cert.KernelIdeal.main_v2544)) (Φ₂ (Proc.devRef .tc Cert.ReferenceIdeal.main_v2559)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 40) rfl) :) e136
  have e138 : @Eq ((⟨Cert.KernelIdeal.S131072, .i1⟩ : BufTy).Contents (Elt F)) (Φ₁ (Proc.devRef .tc Cert.KernelIdeal.main_v2545)) (Φ₂ (Proc.devRef .tc Cert.ReferenceIdeal.main_v2560)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 41) rfl) :) e54 e137
  have e139 : @Eq ((⟨Cert.KernelIdeal.S_, .i32⟩ : BufTy).Contents (Elt F)) (Φ₁ (Proc.devRef .tc Cert.KernelIdeal.main_c_779)) (Φ₂ (Proc.devRef .tc Cert.ReferenceIdeal.main_c_779)) := step0 (β := ((⟨Cert.KernelIdeal.S_, .i32⟩ : BufTy).Contents (Elt F))) (eq0 (at_ fa8 (i := 64) rfl) :) (eq0 (at_ fb2 (i := 42) rfl) :)
  have e140 : @Eq ((⟨Cert.KernelIdeal.S131072, .i32⟩ : BufTy).Contents (Elt F)) (Φ₁ (Proc.devRef .tc Cert.KernelIdeal.main_v2546)) (Φ₂ (Proc.devRef .tc Cert.ReferenceIdeal.main_v2561)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 43) rfl) :) e139
  have e141 : @Eq ((⟨Cert.KernelIdeal.S131072, .i32⟩ : BufTy).Contents (Elt F)) (Φ₁ (Proc.devRef .tc Cert.KernelIdeal.main_v2547)) (Φ₂ (Proc.devRef .tc Cert.ReferenceIdeal.main_v2562)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 44) rfl) :) e54 e140
  have e142 : @Eq ((⟨Cert.KernelIdeal.S131072, .i32⟩ : BufTy).Contents (Elt F)) (Φ₁ (Proc.devRef .tc Cert.KernelIdeal.main_v2548)) (Φ₂ (Proc.devRef .tc Cert.ReferenceIdeal.main_v2563)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 45) rfl) :) e138 e141 e54
  have e143 : @Eq ((⟨Cert.KernelIdeal.S131072x1, .i32⟩ : BufTy).Contents (Elt F)) (Φ₁ (Proc.devRef .tc Cert.KernelIdeal.main_v2549)) (Φ₂ (Proc.devRef .tc Cert.ReferenceIdeal.main_v2564)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 46) rfl) :) e135
  have e144 : @Eq ((⟨Cert.KernelIdeal.S131072x1, .i32⟩ : BufTy).Contents (Elt F)) (Φ₁ (Proc.devRef .tc Cert.KernelIdeal.main_v2550)) (Φ₂ (Proc.devRef .tc Cert.ReferenceIdeal.main_v2565)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 47) rfl) :) e142
  have e145 : @Eq ((⟨Cert.KernelIdeal.S131072x2, .i32⟩ : BufTy).Contents (Elt F)) (Φ₁ (Proc.devRef .tc Cert.KernelIdeal.main_v2551)) (Φ₂ (Proc.devRef .tc Cert.ReferenceIdeal.main_v2566)) := by rw [eq2 (at_ fa8 (i := 70) rfl), eq2 (at_ fb2 (i := 48) rfl), e143, e144] <;> rfl
  have e146 : @Eq ((⟨Cert.KernelIdeal.S32x131072, .f32⟩ : BufTy).Contents (Elt F)) (Φ₁ (Proc.devRef .tc Cert.KernelIdeal.main_v2552)) (Φ₂ (Proc.devRef .tc Cert.ReferenceIdeal.main_v2567)) := by rw [eq2 (at_ fa8 (i := 71) rfl), eq2 (at_ fb2 (i := 49) rfl), x2, e145] <;> rfl
  have e147 : @Eq ((⟨Cert.KernelIdeal.S_, .f32⟩ : BufTy).Contents (Elt F)) (Φ₁ (Proc.devRef .tc Cert.KernelIdeal.main_cst_780)) (Φ₂ (Proc.devRef .tc Cert.ReferenceIdeal.main_cst_780)) := step0 (β := ((⟨Cert.KernelIdeal.S_, .f32⟩ : BufTy).Contents (Elt F))) (eq0 (at_ fa8 (i := 72) rfl) :) (eq0 (at_ fb2 (i := 50) rfl) :)
  have e148 : @Eq ((⟨Cert.KernelIdeal.S131072, .f32⟩ : BufTy).Contents (Elt F)) (Φ₁ (Proc.devRef .tc Cert.KernelIdeal.main_v2553)) (Φ₂ (Proc.devRef .tc Cert.ReferenceIdeal.main_v2568)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 51) rfl) :) e147
  have e149 : @Eq ((⟨Cert.KernelIdeal.S131072, .f32⟩ : BufTy).Contents (Elt F)) (Φ₁ (Proc.devRef .tc Cert.KernelIdeal.main_v2554)) (Φ₂ (Proc.devRef .tc Cert.ReferenceIdeal.main_v2569)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 52) rfl) :) e148 e33
  have e150 : @Eq ((⟨Cert.KernelIdeal.S1x131072, .f32⟩ : BufTy).Contents (Elt F)) (Φ₁ (Proc.devRef .tc Cert.KernelIdeal.main_v2555)) (Φ₂ (Proc.devRef .tc Cert.ReferenceIdeal.main_v2570)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 53) rfl) :) e149
  have e151 : @Eq ((⟨Cert.KernelIdeal.S32x131072, .f32⟩ : BufTy).Contents (Elt F)) (Φ₁ (Proc.devRef .tc Cert.KernelIdeal.main_v2556)) (Φ₂ (Proc.devRef .tc Cert.ReferenceIdeal.main_v2571)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 54) rfl) :) e150
  have e152 : @Eq ((⟨Cert.KernelIdeal.S32x131072, .f32⟩ : BufTy).Contents (Elt F)) (Φ₁ (Proc.devRef .tc Cert.KernelIdeal.main_v2557)) (Φ₂ (Proc.devRef .tc Cert.ReferenceIdeal.main_v2572)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 55) rfl) :) e92 e151
  have e153 : @Eq ((⟨Cert.KernelIdeal.S_, .f32⟩ : BufTy).Contents (Elt F)) (Φ₁ (Proc.devRef .tc Cert.KernelIdeal.main_cst_781)) (Φ₂ (Proc.devRef .tc Cert.ReferenceIdeal.main_cst_781)) := step0 (β := ((⟨Cert.KernelIdeal.S_, .f32⟩ : BufTy).Contents (Elt F))) (eq0 (at_ fa8 (i := 78) rfl) :) (eq0 (at_ fb2 (i := 56) rfl) :)
  have e154 : @Eq ((⟨Cert.KernelIdeal.S131072, .f32⟩ : BufTy).Contents (Elt F)) (Φ₁ (Proc.devRef .tc Cert.KernelIdeal.main_v2558)) (Φ₂ (Proc.devRef .tc Cert.ReferenceIdeal.main_v2573)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 57) rfl) :) e153
  have e155 : @Eq ((⟨Cert.KernelIdeal.S131072, .f32⟩ : BufTy).Contents (Elt F)) (Φ₁ (Proc.devRef .tc Cert.KernelIdeal.main_v2559)) (Φ₂ (Proc.devRef .tc Cert.ReferenceIdeal.main_v2574)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 58) rfl) :) e154 e34
  have e156 : @Eq ((⟨Cert.KernelIdeal.S1x131072, .f32⟩ : BufTy).Contents (Elt F)) (Φ₁ (Proc.devRef .tc Cert.KernelIdeal.main_v2560)) (Φ₂ (Proc.devRef .tc Cert.ReferenceIdeal.main_v2575)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 59) rfl) :) e155
  have e157 : @Eq ((⟨Cert.KernelIdeal.S32x131072, .f32⟩ : BufTy).Contents (Elt F)) (Φ₁ (Proc.devRef .tc Cert.KernelIdeal.main_v2561)) (Φ₂ (Proc.devRef .tc Cert.ReferenceIdeal.main_v2576)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 0) rfl) :) e156
  have e158 : @Eq ((⟨Cert.KernelIdeal.S32x131072, .f32⟩ : BufTy).Contents (Elt F)) (Φ₁ (Proc.devRef .tc Cert.KernelIdeal.main_v2562)) (Φ₂ (Proc.devRef .tc Cert.ReferenceIdeal.main_v2577)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 1) rfl) :) e152 e157
  have e159 : @Eq ((⟨Cert.KernelIdeal.S1x131072, .f32⟩ : BufTy).Contents (Elt F)) (Φ₁ (Proc.devRef .tc Cert.KernelIdeal.main_v2563)) (Φ₂ (Proc.devRef .tc Cert.ReferenceIdeal.main_v2578)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 2) rfl) :) e33
  have e160 : @Eq ((⟨Cert.KernelIdeal.S32x131072, .f32⟩ : BufTy).Contents (Elt F)) (Φ₁ (Proc.devRef .tc Cert.KernelIdeal.main_v2564)) (Φ₂ (Proc.devRef .tc Cert.ReferenceIdeal.main_v2579)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 3) rfl) :) e159
  have e161 : @Eq ((⟨Cert.KernelIdeal.S32x131072, .f32⟩ : BufTy).Contents (Elt F)) (Φ₁ (Proc.devRef .tc Cert.KernelIdeal.main_v2565)) (Φ₂ (Proc.devRef .tc Cert.ReferenceIdeal.main_v2580)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 4) rfl) :) e110 e160
  have e162 : @Eq ((⟨Cert.KernelIdeal.S_, .f32⟩ : BufTy).Contents (Elt F)) (Φ₁ (Proc.devRef .tc Cert.KernelIdeal.main_cst_782)) (Φ₂ (Proc.devRef .tc Cert.ReferenceIdeal.main_cst_782)) := step0 (β := ((⟨Cert.KernelIdeal.S_, .f32⟩ : BufTy).Contents (Elt F))) (eq0 (at_ fa8 (i := 87) rfl) :) (eq0 (at_ fb3 (i := 5) rfl) :)
  have e163 : @Eq ((⟨Cert.KernelIdeal.S131072, .f32⟩ : BufTy).Contents (Elt F)) (Φ₁ (Proc.devRef .tc Cert.KernelIdeal.main_v2566)) (Φ₂ (Proc.devRef .tc Cert.ReferenceIdeal.main_v2581)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 6) rfl) :) e162
  have e164 : @Eq ((⟨Cert.KernelIdeal.S131072, .f32⟩ : BufTy).Contents (Elt F)) (Φ₁ (Proc.devRef .tc Cert.KernelIdeal.main_v2567)) (Φ₂ (Proc.devRef .tc Cert.ReferenceIdeal.main_v2582)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 7) rfl) :) e163 e34
  have e165 : @Eq ((⟨Cert.KernelIdeal.S1x131072, .f32⟩ : BufTy).Contents (Elt F)) (Φ₁ (Proc.devRef .tc Cert.KernelIdeal.main_v2568)) (Φ₂ (Proc.devRef .tc Cert.ReferenceIdeal.main_v2583)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 8) rfl) :) e164
  have e166 : @Eq ((⟨Cert.KernelIdeal.S32x131072, .f32⟩ : BufTy).Contents (Elt F)) (Φ₁ (Proc.devRef .tc Cert.KernelIdeal.main_v2569)) (Φ₂ (Proc.devRef .tc Cert.ReferenceIdeal.main_v2584)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 9) rfl) :) e165
  have e167 : @Eq ((⟨Cert.KernelIdeal.S32x131072, .f32⟩ : BufTy).Contents (Elt F)) (Φ₁ (Proc.devRef .tc Cert.KernelIdeal.main_v2570)) (Φ₂ (Proc.devRef .tc Cert.ReferenceIdeal.main_v2585)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 10) rfl) :) e161 e166
  have e168 : @Eq ((⟨Cert.KernelIdeal.S32x131072, .f32⟩ : BufTy).Contents (Elt F)) (Φ₁ (Proc.devRef .tc Cert.KernelIdeal.main_v2571)) (Φ₂ (Proc.devRef .tc Cert.ReferenceIdeal.main_v2586)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 11) rfl) :) e158 e167
  have e169 : @Eq ((⟨Cert.KernelIdeal.S_, .f32⟩ : BufTy).Contents (Elt F)) (Φ₁ (Proc.devRef .tc Cert.KernelIdeal.main_cst_783)) (Φ₂ (Proc.devRef .tc Cert.ReferenceIdeal.main_cst_783)) := step0 (β := ((⟨Cert.KernelIdeal.S_, .f32⟩ : BufTy).Contents (Elt F))) (eq0 (at_ fa8 (i := 94) rfl) :) (eq0 (at_ fb3 (i := 12) rfl) :)
  have e170 : @Eq ((⟨Cert.KernelIdeal.S131072, .f32⟩ : BufTy).Contents (Elt F)) (Φ₁ (Proc.devRef .tc Cert.KernelIdeal.main_v2572)) (Φ₂ (Proc.devRef .tc Cert.ReferenceIdeal.main_v2587)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 13) rfl) :) e169
  have e171 : @Eq ((⟨Cert.KernelIdeal.S131072, .f32⟩ : BufTy).Contents (Elt F)) (Φ₁ (Proc.devRef .tc Cert.KernelIdeal.main_v2573)) (Φ₂ (Proc.devRef .tc Cert.ReferenceIdeal.main_v2588)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 14) rfl) :) e170 e33
  have e172 : @Eq ((⟨Cert.KernelIdeal.S1x131072, .f32⟩ : BufTy).Contents (Elt F)) (Φ₁ (Proc.devRef .tc Cert.KernelIdeal.main_v2574)) (Φ₂ (Proc.devRef .tc Cert.ReferenceIdeal.main_v2589)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 15) rfl) :) e171
  have e173 : @Eq ((⟨Cert.KernelIdeal.S32x131072, .f32⟩ : BufTy).Contents (Elt F)) (Φ₁ (Proc.devRef .tc Cert.KernelIdeal.main_v2575)) (Φ₂ (Proc.devRef .tc Cert.ReferenceIdeal.main_v2590)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 16) rfl) :) e172
  have e174 : @Eq ((⟨Cert.KernelIdeal.S32x131072, .f32⟩ : BufTy).Contents (Elt F)) (Φ₁ (Proc.devRef .tc Cert.KernelIdeal.main_v2576)) (Φ₂ (Proc.devRef .tc Cert.ReferenceIdeal.main_v2591)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 17) rfl) :) e128 e173
  have e175 : @Eq ((⟨Cert.KernelIdeal.S1x131072, .f32⟩ : BufTy).Contents (Elt F)) (Φ₁ (Proc.devRef .tc Cert.KernelIdeal.main_v2577)) (Φ₂ (Proc.devRef .tc Cert.ReferenceIdeal.main_v2592)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 18) rfl) :) e34
  have e176 : @Eq ((⟨Cert.KernelIdeal.S32x131072, .f32⟩ : BufTy).Contents (Elt F)) (Φ₁ (Proc.devRef .tc Cert.KernelIdeal.main_v2578)) (Φ₂ (Proc.devRef .tc Cert.ReferenceIdeal.main_v2593)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 19) rfl) :) e175
  have e177 : @Eq ((⟨Cert.KernelIdeal.S32x131072, .f32⟩ : BufTy).Contents (Elt F)) (Φ₁ (Proc.devRef .tc Cert.KernelIdeal.main_v2579)) (Φ₂ (Proc.devRef .tc Cert.ReferenceIdeal.main_v2594)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 20) rfl) :) e174 e176
  have e178 : @Eq ((⟨Cert.KernelIdeal.S32x131072, .f32⟩ : BufTy).Contents (Elt F)) (Φ₁ (Proc.devRef .tc Cert.KernelIdeal.main_v2580)) (Φ₂ (Proc.devRef .tc Cert.ReferenceIdeal.main_v2595)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 21) rfl) :) e168 e177
  have e179 : @Eq ((⟨Cert.KernelIdeal.S1x131072, .f32⟩ : BufTy).Contents (Elt F)) (Φ₁ (Proc.devRef .tc Cert.KernelIdeal.main_v2581)) (Φ₂ (Proc.devRef .tc Cert.ReferenceIdeal.main_v2596)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 22) rfl) :) e33
  have e180 : @Eq ((⟨Cert.KernelIdeal.S32x131072, .f32⟩ : BufTy).Contents (Elt F)) (Φ₁ (Proc.devRef .tc Cert.KernelIdeal.main_v2582)) (Φ₂ (Proc.devRef .tc Cert.ReferenceIdeal.main_v2597)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 23) rfl) :) e179
  have e181 : @Eq ((⟨Cert.KernelIdeal.S32x131072, .f32⟩ : BufTy).Contents (Elt F)) (Φ₁ (Proc.devRef .tc Cert.KernelIdeal.main_v2583)) (Φ₂ (Proc.devRef .tc Cert.ReferenceIdeal.main_v2598)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 24) rfl) :) e146 e180
  have e182 : @Eq ((⟨Cert.KernelIdeal.S1x131072, .f32⟩ : BufTy).Contents (Elt F)) (Φ₁ (Proc.devRef .tc Cert.KernelIdeal.main_v2584)) (Φ₂ (Proc.devRef .tc Cert.ReferenceIdeal.main_v2599)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 25) rfl) :) e34
  have e183 : @Eq ((⟨Cert.KernelIdeal.S32x131072, .f32⟩ : BufTy).Contents (Elt F)) (Φ₁ (Proc.devRef .tc Cert.KernelIdeal.main_v2585)) (Φ₂ (Proc.devRef .tc Cert.ReferenceIdeal.main_v2600)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 26) rfl) :) e182
  have e184 : @Eq ((⟨Cert.KernelIdeal.S32x131072, .f32⟩ : BufTy).Contents (Elt F)) (Φ₁ (Proc.devRef .tc Cert.KernelIdeal.main_v2586)) (Φ₂ (Proc.devRef .tc Cert.ReferenceIdeal.main_v2601)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 27) rfl) :) e181 e183
  have e185 : @Eq ((⟨Cert.KernelIdeal.S32x131072, .f32⟩ : BufTy).Contents (Elt F)) (Φ₁ (Proc.devRef .tc Cert.KernelIdeal.main_v2587)) (Φ₂ (Proc.devRef .tc Cert.ReferenceIdeal.main_v2602)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 28) rfl) :) e178 e184
  have e186 : @Eq ((⟨Cert.KernelIdeal.S131072x32, .f32⟩ : BufTy).Contents (Elt F)) (Φ₁ (Proc.devRef .tc Cert.KernelIdeal.main_v2588)) (Φ₂ (Proc.devRef .tc Cert.ReferenceIdeal.main_v2603)) := by rw [eq1 (at_ fa8 (i := 111) rfl), eq1 (at_ fb3 (i := 29) rfl), e185] <;> rfl
  exact e186

end Cert.Bridge

end
-- ==== Proof.SimB20.lean ====
/- Operations 3775 … 3961 of the one program and 3791 … 3977 of the other apply the same functions to corresponding
   buffers. If both programs' final contents satisfy their own lines' equations and agree on the buffers these operations
   read from outside, they agree on what these operations write: one congruence per operation, in program order. -/
import proofs.«133805_j10187662426200_2_alg».proof.Proof.KIStretch4
import proofs.«133805_j10187662426200_2_alg».proof.Proof.RefOps7
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B20 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_160 : List (HloOp Cert.KernelIdeal.τ Cert.KernelIdeal.sig (Elt F))).Forall fun op => ∀ b ∈ op.writes, Φ₁ b = op.result Φ₁ b)
    (fa1 : (Cert.KernelIdeal.Gen.hostOps0_161 : List (HloOp Cert.KernelIdeal.τ Cert.KernelIdeal.sig (Elt F))).Forall fun op => ∀ b ∈ op.writes, Φ₁ b = op.result Φ₁ b)
    (fa2 : (Cert.KernelIdeal.Gen.hostOps0_162 : List (HloOp Cert.KernelIdeal.τ Cert.KernelIdeal.sig (Elt F))).Forall fun op => ∀ b ∈ op.writes, Φ₁ b = op.result Φ₁ b)
    (fa3 : (Cert.KernelIdeal.Gen.hostOps0_163 : List (HloOp Cert.KernelIdeal.τ Cert.KernelIdeal.sig (Elt F))).Forall fun op => ∀ b ∈ op.writes, Φ₁ b = op.result Φ₁ b)
    (fa4 : (Cert.KernelIdeal.Gen.hostOps0_164 : List (HloOp Cert.KernelIdeal.τ Cert.KernelIdeal.sig (Elt F))).Forall fun op => ∀ b ∈ op.writes, Φ₁ b = op.result Φ₁ b)
    (fa5 : (Cert.KernelIdeal.Gen.hostOps0_165 : List (HloOp Cert.KernelIdeal.τ Cert.KernelIdeal.sig (Elt F))).Forall fun op => ∀ b ∈ op.writes, Φ₁ b = op.result Φ₁ b)
    (fa6 : (Cert.KernelIdeal.Gen.hostOps0_166 : List (HloOp Cert.KernelIdeal.τ Cert.KernelIdeal.sig (Elt F))).Forall fun op => ∀ b ∈ op.writes, Φ₁ b = op.result Φ₁ b)
    (fa7 : (Cert.KernelIdeal.Gen.hostOps0_167 : List (HloOp Cert.KernelIdeal.τ Cert.KernelIdeal.sig (Elt F))).Forall fun op => ∀ b ∈ op.writes, Φ₁ b = op.result Φ₁ b)
    (fa8 : (Cert.KernelIdeal.Gen.hostOps0_168 : List (HloOp Cert.KernelIdeal.τ Cert.KernelIdeal.sig (Elt F))).Forall fun op => ∀ b ∈ op.writes, Φ₁ b = op.result Φ₁ b)
    (fb0 : (Cert.ReferenceIdeal.Ops.w56 : List (HloOp Cert.ReferenceIdeal.τ Cert.ReferenceIdeal.sig (Elt F))).Forall fun op => ∀ b ∈ op.writes, Φ₂ b = op.result Φ₂ b)
    (fb1 : (Cert.ReferenceIdeal.Ops.w57 : List (HloOp Cert.ReferenceIdeal.τ Cert.ReferenceIdeal.sig (Elt F))).Forall fun op => ∀ b ∈ op.writes, Φ₂ b = op.result Φ₂ b)
    (fb2 : (Cert.ReferenceIdeal.Ops.w58 : List (HloOp Cert.ReferenceIdeal.τ Cert.ReferenceIdeal.sig (Elt F))).Forall fun op => ∀ b ∈ op.writes, Φ₂ b = op.result Φ₂ b)
    (fb3 : (Cert.ReferenceIdeal.Ops.w59 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_19)) (Φ₂ (Proc.devRef .tc Cert.ReferenceIdeal.main_c_19)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x512, .f32⟩ : BufTy).Contents (Elt F)) (Φ₁ (Proc.devRef .tc Cert.KernelIdeal.main_arg22)) (Φ₂ (Proc.devRef .tc Cert.ReferenceIdeal.main_arg22)))
    : @Eq ((⟨Cert.KernelIdeal.S131072x32, .f32⟩ : BufTy).Contents (Elt F)) (Φ₁ (Proc.devRef .tc Cert.KernelIdeal.main_v2717)) (Φ₂ (Proc.devRef .tc Cert.ReferenceIdeal.main_v2733)) := by
  have e0 : @Eq ((⟨Cert.KernelIdeal.S_, .i32⟩ : BufTy).Contents (Elt F)) (Φ₁ (Proc.devRef .tc Cert.KernelIdeal.main_c_784)) (Φ₂ (Proc.devRef .tc Cert.ReferenceIdeal.main_c_784)) := step0 (β := ((⟨Cert.KernelIdeal.S_, .i32⟩ : BufTy).Contents (Elt F))) (eq0 (at_ fa0 (i := 112) rfl) :) (eq0 (at_ fb0 (i := 31) rfl) :)
  have e1 : @Eq ((⟨Cert.KernelIdeal.S2, .i32⟩ : BufTy).Contents (Elt F)) (Φ₁ (Proc.devRef .tc Cert.KernelIdeal.main_v2589)) (Φ₂ (Proc.devRef .tc Cert.ReferenceIdeal.main_v2605)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 32) rfl) :) e0
  have e2 : @Eq ((⟨Cert.KernelIdeal.S2, .i1⟩ : BufTy).Contents (Elt F)) (Φ₁ (Proc.devRef .tc Cert.KernelIdeal.main_v2590)) (Φ₂ (Proc.devRef .tc Cert.ReferenceIdeal.main_v2606)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 33) rfl) :) x0 e1
  have e3 : @Eq ((⟨Cert.KernelIdeal.S_, .i32⟩ : BufTy).Contents (Elt F)) (Φ₁ (Proc.devRef .tc Cert.KernelIdeal.main_c_785)) (Φ₂ (Proc.devRef .tc Cert.ReferenceIdeal.main_c_785)) := step0 (β := ((⟨Cert.KernelIdeal.S_, .i32⟩ : BufTy).Contents (Elt F))) (eq0 (at_ fa0 (i := 115) rfl) :) (eq0 (at_ fb0 (i := 34) rfl) :)
  have e4 : @Eq ((⟨Cert.KernelIdeal.S2, .i32⟩ : BufTy).Contents (Elt F)) (Φ₁ (Proc.devRef .tc Cert.KernelIdeal.main_v2591)) (Φ₂ (Proc.devRef .tc Cert.ReferenceIdeal.main_v2607)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 35) rfl) :) e3
  have e5 : @Eq ((⟨Cert.KernelIdeal.S2, .i32⟩ : BufTy).Contents (Elt F)) (Φ₁ (Proc.devRef .tc Cert.KernelIdeal.main_v2592)) (Φ₂ (Proc.devRef .tc Cert.ReferenceIdeal.main_v2608)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 36) rfl) :) x0 e4
  have e6 : @Eq ((⟨Cert.KernelIdeal.S2, .i32⟩ : BufTy).Contents (Elt F)) (Φ₁ (Proc.devRef .tc Cert.KernelIdeal.main_v2593)) (Φ₂ (Proc.devRef .tc Cert.ReferenceIdeal.main_v2609)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 37) rfl) :) e2 e5 x0
  have e7 : @Eq ((⟨Cert.KernelIdeal.S2x1, .i32⟩ : BufTy).Contents (Elt F)) (Φ₁ (Proc.devRef .tc Cert.KernelIdeal.main_v2594)) (Φ₂ (Proc.devRef .tc Cert.ReferenceIdeal.main_v2610)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 38) rfl) :) e6
  have e8 : @Eq ((⟨Cert.KernelIdeal.S131072x2, .f32⟩ : BufTy).Contents (Elt F)) (Φ₁ (Proc.devRef .tc Cert.KernelIdeal.main_v2595)) (Φ₂ (Proc.devRef .tc Cert.ReferenceIdeal.main_v2611)) := by rw [eq2 (at_ fa0 (i := 120) rfl), eq2 (at_ fb0 (i := 39) rfl), x1, e7] <;> rfl
  have e9 : @Eq ((⟨Cert.KernelIdeal.S131072x1, .f32⟩ : BufTy).Contents (Elt F)) (Φ₁ (Proc.devRef .tc Cert.KernelIdeal.main_v2596)) (Φ₂ (Proc.devRef .tc Cert.ReferenceIdeal.main_v2612)) := by rw [eq1 (at_ fa0 (i := 121) rfl), eq1 (at_ fb0 (i := 40) rfl), e8] <;> rfl
  have e10 : @Eq ((⟨Cert.KernelIdeal.S131072, .f32⟩ : BufTy).Contents (Elt F)) (Φ₁ (Proc.devRef .tc Cert.KernelIdeal.main_v2597)) (Φ₂ (Proc.devRef .tc Cert.ReferenceIdeal.main_v2613)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 41) rfl) :) e9
  have e11 : @Eq ((⟨Cert.KernelIdeal.S_, .f32⟩ : BufTy).Contents (Elt F)) (Φ₁ (Proc.devRef .tc Cert.KernelIdeal.main_cst_786)) (Φ₂ (Proc.devRef .tc Cert.ReferenceIdeal.main_cst_786)) := step0 (β := ((⟨Cert.KernelIdeal.S_, .f32⟩ : BufTy).Contents (Elt F))) (eq0 (at_ fa0 (i := 123) rfl) :) (eq0 (at_ fb0 (i := 42) rfl) :)
  have e12 : @Eq ((⟨Cert.KernelIdeal.S131072, .f32⟩ : BufTy).Contents (Elt F)) (Φ₁ (Proc.devRef .tc Cert.KernelIdeal.main_v2598)) (Φ₂ (Proc.devRef .tc Cert.ReferenceIdeal.main_v2614)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 43) rfl) :) e11
  have e13 : @Eq ((⟨Cert.KernelIdeal.S131072, .f32⟩ : BufTy).Contents (Elt F)) (Φ₁ (Proc.devRef .tc Cert.KernelIdeal.main_v2599)) (Φ₂ (Proc.devRef .tc Cert.ReferenceIdeal.main_v2615)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 44) rfl) :) e10 e12
  have e14 : @Eq ((⟨Cert.KernelIdeal.S_, .f32⟩ : BufTy).Contents (Elt F)) (Φ₁ (Proc.devRef .tc Cert.KernelIdeal.main_cst_787)) (Φ₂ (Proc.devRef .tc Cert.ReferenceIdeal.main_cst_787)) := step0 (β := ((⟨Cert.KernelIdeal.S_, .f32⟩ : BufTy).Contents (Elt F))) (eq0 (at_ fa0 (i := 126) rfl) :) (eq0 (at_ fb0 (i := 45) rfl) :)
  have e15 : @Eq ((⟨Cert.KernelIdeal.S131072, .f32⟩ : BufTy).Contents (Elt F)) (Φ₁ (Proc.devRef .tc Cert.KernelIdeal.main_v2600)) (Φ₂ (Proc.devRef .tc Cert.ReferenceIdeal.main_v2616)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 46) rfl) :) e14
  have e16 : @Eq ((⟨Cert.KernelIdeal.S131072, .f32⟩ : BufTy).Contents (Elt F)) (Φ₁ (Proc.devRef .tc Cert.KernelIdeal.main_v2601)) (Φ₂ (Proc.devRef .tc Cert.ReferenceIdeal.main_v2617)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 47) rfl) :) e13 e15
  have e17 : @Eq ((⟨Cert.KernelIdeal.S_, .f32⟩ : BufTy).Contents (Elt F)) (Φ₁ (Proc.devRef .tc Cert.KernelIdeal.main_cst_788)) (Φ₂ (Proc.devRef .tc Cert.ReferenceIdeal.main_cst_788)) := step0 (β := ((⟨Cert.KernelIdeal.S_, .f32⟩ : BufTy).Contents (Elt F))) (eq0 (at_ fa0 (i := 129) rfl) :) (eq0 (at_ fb0 (i := 48) rfl) :)
  have e18 : @Eq ((⟨Cert.KernelIdeal.S131072, .f32⟩ : BufTy).Contents (Elt F)) (Φ₁ (Proc.devRef .tc Cert.KernelIdeal.main_v2602)) (Φ₂ (Proc.devRef .tc Cert.ReferenceIdeal.main_v2618)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 49) rfl) :) e17
  have e19 : @Eq ((⟨Cert.KernelIdeal.S131072, .f32⟩ : BufTy).Contents (Elt F)) (Φ₁ (Proc.devRef .tc Cert.KernelIdeal.main_v2603)) (Φ₂ (Proc.devRef .tc Cert.ReferenceIdeal.main_v2619)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 50) rfl) :) e16 e18
  have e20 : @Eq ((⟨Cert.KernelIdeal.S131072x1, .f32⟩ : BufTy).Contents (Elt F)) (Φ₁ (Proc.devRef .tc Cert.KernelIdeal.main_v2604)) (Φ₂ (Proc.devRef .tc Cert.ReferenceIdeal.main_v2620)) := by rw [eq1 (at_ fa0 (i := 132) rfl), eq1 (at_ fb0 (i := 51) rfl), e8] <;> rfl
  have e21 : @Eq ((⟨Cert.KernelIdeal.S131072, .f32⟩ : BufTy).Contents (Elt F)) (Φ₁ (Proc.devRef .tc Cert.KernelIdeal.main_v2605)) (Φ₂ (Proc.devRef .tc Cert.ReferenceIdeal.main_v2621)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 52) rfl) :) e20
  have e22 : @Eq ((⟨Cert.KernelIdeal.S_, .f32⟩ : BufTy).Contents (Elt F)) (Φ₁ (Proc.devRef .tc Cert.KernelIdeal.main_cst_789)) (Φ₂ (Proc.devRef .tc Cert.ReferenceIdeal.main_cst_789)) := step0 (β := ((⟨Cert.KernelIdeal.S_, .f32⟩ : BufTy).Contents (Elt F))) (eq0 (at_ fa0 (i := 134) rfl) :) (eq0 (at_ fb0 (i := 53) rfl) :)
  have e23 : @Eq ((⟨Cert.KernelIdeal.S131072, .f32⟩ : BufTy).Contents (Elt F)) (Φ₁ (Proc.devRef .tc Cert.KernelIdeal.main_v2606)) (Φ₂ (Proc.devRef .tc Cert.ReferenceIdeal.main_v2622)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 54) rfl) :) e22
  have e24 : @Eq ((⟨Cert.KernelIdeal.S131072, .f32⟩ : BufTy).Contents (Elt F)) (Φ₁ (Proc.devRef .tc Cert.KernelIdeal.main_v2607)) (Φ₂ (Proc.devRef .tc Cert.ReferenceIdeal.main_v2623)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 55) rfl) :) e21 e23
  have e25 : @Eq ((⟨Cert.KernelIdeal.S_, .f32⟩ : BufTy).Contents (Elt F)) (Φ₁ (Proc.devRef .tc Cert.KernelIdeal.main_cst_790)) (Φ₂ (Proc.devRef .tc Cert.ReferenceIdeal.main_cst_790)) := step0 (β := ((⟨Cert.KernelIdeal.S_, .f32⟩ : BufTy).Contents (Elt F))) (eq0 (at_ fa0 (i := 137) rfl) :) (eq0 (at_ fb0 (i := 56) rfl) :)
  have e26 : @Eq ((⟨Cert.KernelIdeal.S131072, .f32⟩ : BufTy).Contents (Elt F)) (Φ₁ (Proc.devRef .tc Cert.KernelIdeal.main_v2608)) (Φ₂ (Proc.devRef .tc Cert.ReferenceIdeal.main_v2624)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 57) rfl) :) e25
  have e27 : @Eq ((⟨Cert.KernelIdeal.S131072, .f32⟩ : BufTy).Contents (Elt F)) (Φ₁ (Proc.devRef .tc Cert.KernelIdeal.main_v2609)) (Φ₂ (Proc.devRef .tc Cert.ReferenceIdeal.main_v2625)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 58) rfl) :) e24 e26
  have e28 : @Eq ((⟨Cert.KernelIdeal.S_, .f32⟩ : BufTy).Contents (Elt F)) (Φ₁ (Proc.devRef .tc Cert.KernelIdeal.main_cst_791)) (Φ₂ (Proc.devRef .tc Cert.ReferenceIdeal.main_cst_791)) := step0 (β := ((⟨Cert.KernelIdeal.S_, .f32⟩ : BufTy).Contents (Elt F))) (eq0 (at_ fa0 (i := 140) rfl) :) (eq0 (at_ fb0 (i := 59) rfl) :)
  have e29 : @Eq ((⟨Cert.KernelIdeal.S131072, .f32⟩ : BufTy).Contents (Elt F)) (Φ₁ (Proc.devRef .tc Cert.KernelIdeal.main_v2610)) (Φ₂ (Proc.devRef .tc Cert.ReferenceIdeal.main_v2626)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 0) rfl) :) e28
  have e30 : @Eq ((⟨Cert.KernelIdeal.S131072, .f32⟩ : BufTy).Contents (Elt F)) (Φ₁ (Proc.devRef .tc Cert.KernelIdeal.main_v2611)) (Φ₂ (Proc.devRef .tc Cert.ReferenceIdeal.main_v2627)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 1) rfl) :) e27 e29
  have e31 : @Eq ((⟨Cert.KernelIdeal.S131072, .f32⟩ : BufTy).Contents (Elt F)) (Φ₁ (Proc.devRef .tc Cert.KernelIdeal.main_v2612)) (Φ₂ (Proc.devRef .tc Cert.ReferenceIdeal.main_v2628)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 2) rfl) :) e19
  have e32 : @Eq ((⟨Cert.KernelIdeal.S131072, .f32⟩ : BufTy).Contents (Elt F)) (Φ₁ (Proc.devRef .tc Cert.KernelIdeal.main_v2613)) (Φ₂ (Proc.devRef .tc Cert.ReferenceIdeal.main_v2629)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 3) rfl) :) e30
  have e33 : @Eq ((⟨Cert.KernelIdeal.S131072, .f32⟩ : BufTy).Contents (Elt F)) (Φ₁ (Proc.devRef .tc Cert.KernelIdeal.main_v2614)) (Φ₂ (Proc.devRef .tc Cert.ReferenceIdeal.main_v2630)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 4) rfl) :) e19 e31
  have e34 : @Eq ((⟨Cert.KernelIdeal.S131072, .f32⟩ : BufTy).Contents (Elt F)) (Φ₁ (Proc.devRef .tc Cert.KernelIdeal.main_v2615)) (Φ₂ (Proc.devRef .tc Cert.ReferenceIdeal.main_v2631)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 5) rfl) :) e30 e32
  have e35 : @Eq ((⟨Cert.KernelIdeal.S131072, .i32⟩ : BufTy).Contents (Elt F)) (Φ₁ (Proc.devRef .tc Cert.KernelIdeal.main_v2616)) (Φ₂ (Proc.devRef .tc Cert.ReferenceIdeal.main_v2632)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 6) rfl) :) e31
  have e36 : @Eq ((⟨Cert.KernelIdeal.S_, .i32⟩ : BufTy).Contents (Elt F)) (Φ₁ (Proc.devRef .tc Cert.KernelIdeal.main_c_792)) (Φ₂ (Proc.devRef .tc Cert.ReferenceIdeal.main_c_792)) := step0 (β := ((⟨Cert.KernelIdeal.S_, .i32⟩ : BufTy).Contents (Elt F))) (eq0 (at_ fa0 (i := 148) rfl) :) (eq0 (at_ fb1 (i := 7) rfl) :)
  have e37 : @Eq ((⟨Cert.KernelIdeal.S_, .i32⟩ : BufTy).Contents (Elt F)) (Φ₁ (Proc.devRef .tc Cert.KernelIdeal.main_c_793)) (Φ₂ (Proc.devRef .tc Cert.ReferenceIdeal.main_c_793)) := step0 (β := ((⟨Cert.KernelIdeal.S_, .i32⟩ : BufTy).Contents (Elt F))) (eq0 (at_ fa0 (i := 149) rfl) :) (eq0 (at_ fb1 (i := 8) rfl) :)
  have e38 : @Eq ((⟨Cert.KernelIdeal.S_, .i32⟩ : BufTy).Contents (Elt F)) (Φ₁ (Proc.devRef .tc Cert.KernelIdeal.main_call80_v0)) (Φ₂ (Proc.devRef .tc Cert.ReferenceIdeal.main_call80_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 9) rfl) :) e36
  have e39 : @Eq ((⟨Cert.KernelIdeal.S131072, .i32⟩ : BufTy).Contents (Elt F)) (Φ₁ (Proc.devRef .tc Cert.KernelIdeal.main_call80_v1)) (Φ₂ (Proc.devRef .tc Cert.ReferenceIdeal.main_call80_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 10) rfl) :) e38
  have e40 : @Eq ((⟨Cert.KernelIdeal.S131072, .i32⟩ : BufTy).Contents (Elt F)) (Φ₁ (Proc.devRef .tc Cert.KernelIdeal.main_call80_v2)) (Φ₂ (Proc.devRef .tc Cert.ReferenceIdeal.main_call80_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 11) rfl) :) e39 e35
  have e41 : @Eq ((⟨Cert.KernelIdeal.S_, .i32⟩ : BufTy).Contents (Elt F)) (Φ₁ (Proc.devRef .tc Cert.KernelIdeal.main_call80_v3)) (Φ₂ (Proc.devRef .tc Cert.ReferenceIdeal.main_call80_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 12) rfl) :) e37
  have e42 : @Eq ((⟨Cert.KernelIdeal.S131072, .i32⟩ : BufTy).Contents (Elt F)) (Φ₁ (Proc.devRef .tc Cert.KernelIdeal.main_call80_v4)) (Φ₂ (Proc.devRef .tc Cert.ReferenceIdeal.main_call80_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 13) rfl) :) e41
  have e43 : @Eq ((⟨Cert.KernelIdeal.S131072, .i32⟩ : BufTy).Contents (Elt F)) (Φ₁ (Proc.devRef .tc Cert.KernelIdeal.main_v2617)) (Φ₂ (Proc.devRef .tc Cert.ReferenceIdeal.main_v2633)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 14) rfl) :) e42 e40
  have e44 : @Eq ((⟨Cert.KernelIdeal.S_, .i32⟩ : BufTy).Contents (Elt F)) (Φ₁ (Proc.devRef .tc Cert.KernelIdeal.main_c_794)) (Φ₂ (Proc.devRef .tc Cert.ReferenceIdeal.main_c_794)) := step0 (β := ((⟨Cert.KernelIdeal.S_, .i32⟩ : BufTy).Contents (Elt F))) (eq0 (at_ fa2 (i := 0) rfl) :) (eq0 (at_ fb1 (i := 15) rfl) :)
  have e45 : @Eq ((⟨Cert.KernelIdeal.S131072, .i32⟩ : BufTy).Contents (Elt F)) (Φ₁ (Proc.devRef .tc Cert.KernelIdeal.main_v2618)) (Φ₂ (Proc.devRef .tc Cert.ReferenceIdeal.main_v2634)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 16) rfl) :) e44
  have e46 : @Eq ((⟨Cert.KernelIdeal.S131072, .i32⟩ : BufTy).Contents (Elt F)) (Φ₁ (Proc.devRef .tc Cert.KernelIdeal.main_v2619)) (Φ₂ (Proc.devRef .tc Cert.ReferenceIdeal.main_v2635)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 17) rfl) :) e43 e45
  have e47 : @Eq ((⟨Cert.KernelIdeal.S_, .i32⟩ : BufTy).Contents (Elt F)) (Φ₁ (Proc.devRef .tc Cert.KernelIdeal.main_c_795)) (Φ₂ (Proc.devRef .tc Cert.ReferenceIdeal.main_c_795)) := step0 (β := ((⟨Cert.KernelIdeal.S_, .i32⟩ : BufTy).Contents (Elt F))) (eq0 (at_ fa2 (i := 3) rfl) :) (eq0 (at_ fb1 (i := 18) rfl) :)
  have e48 : @Eq ((⟨Cert.KernelIdeal.S_, .i32⟩ : BufTy).Contents (Elt F)) (Φ₁ (Proc.devRef .tc Cert.KernelIdeal.main_c_796)) (Φ₂ (Proc.devRef .tc Cert.ReferenceIdeal.main_c_796)) := step0 (β := ((⟨Cert.KernelIdeal.S_, .i32⟩ : BufTy).Contents (Elt F))) (eq0 (at_ fa2 (i := 4) rfl) :) (eq0 (at_ fb1 (i := 19) rfl) :)
  have e49 : @Eq ((⟨Cert.KernelIdeal.S_, .i32⟩ : BufTy).Contents (Elt F)) (Φ₁ (Proc.devRef .tc Cert.KernelIdeal.main_call81_v0)) (Φ₂ (Proc.devRef .tc Cert.ReferenceIdeal.main_call81_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 20) rfl) :) e47
  have e50 : @Eq ((⟨Cert.KernelIdeal.S131072, .i32⟩ : BufTy).Contents (Elt F)) (Φ₁ (Proc.devRef .tc Cert.KernelIdeal.main_call81_v1)) (Φ₂ (Proc.devRef .tc Cert.ReferenceIdeal.main_call81_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 21) rfl) :) e49
  have e51 : @Eq ((⟨Cert.KernelIdeal.S131072, .i32⟩ : BufTy).Contents (Elt F)) (Φ₁ (Proc.devRef .tc Cert.KernelIdeal.main_call81_v2)) (Φ₂ (Proc.devRef .tc Cert.ReferenceIdeal.main_call81_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 22) rfl) :) e50 e46
  have e52 : @Eq ((⟨Cert.KernelIdeal.S_, .i32⟩ : BufTy).Contents (Elt F)) (Φ₁ (Proc.devRef .tc Cert.KernelIdeal.main_call81_v3)) (Φ₂ (Proc.devRef .tc Cert.ReferenceIdeal.main_call81_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 23) rfl) :) e48
  have e53 : @Eq ((⟨Cert.KernelIdeal.S131072, .i32⟩ : BufTy).Contents (Elt F)) (Φ₁ (Proc.devRef .tc Cert.KernelIdeal.main_call81_v4)) (Φ₂ (Proc.devRef .tc Cert.ReferenceIdeal.main_call81_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 24) rfl) :) e52
  have e54 : @Eq ((⟨Cert.KernelIdeal.S131072, .i32⟩ : BufTy).Contents (Elt F)) (Φ₁ (Proc.devRef .tc Cert.KernelIdeal.main_v2620)) (Φ₂ (Proc.devRef .tc Cert.ReferenceIdeal.main_v2636)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 25) rfl) :) e53 e51
  have e55 : @Eq ((⟨Cert.KernelIdeal.S131072, .i32⟩ : BufTy).Contents (Elt F)) (Φ₁ (Proc.devRef .tc Cert.KernelIdeal.main_v2621)) (Φ₂ (Proc.devRef .tc Cert.ReferenceIdeal.main_v2637)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 26) rfl) :) e32
  have e56 : @Eq ((⟨Cert.KernelIdeal.S_, .i32⟩ : BufTy).Contents (Elt F)) (Φ₁ (Proc.devRef .tc Cert.KernelIdeal.main_c_797)) (Φ₂ (Proc.devRef .tc Cert.ReferenceIdeal.main_c_797)) := step0 (β := ((⟨Cert.KernelIdeal.S_, .i32⟩ : BufTy).Contents (Elt F))) (eq0 (at_ fa4 (i := 1) rfl) :) (eq0 (at_ fb1 (i := 27) rfl) :)
  have e57 : @Eq ((⟨Cert.KernelIdeal.S_, .i32⟩ : BufTy).Contents (Elt F)) (Φ₁ (Proc.devRef .tc Cert.KernelIdeal.main_c_798)) (Φ₂ (Proc.devRef .tc Cert.ReferenceIdeal.main_c_798)) := step0 (β := ((⟨Cert.KernelIdeal.S_, .i32⟩ : BufTy).Contents (Elt F))) (eq0 (at_ fa4 (i := 2) rfl) :) (eq0 (at_ fb1 (i := 28) rfl) :)
  have e58 : @Eq ((⟨Cert.KernelIdeal.S_, .i32⟩ : BufTy).Contents (Elt F)) (Φ₁ (Proc.devRef .tc Cert.KernelIdeal.main_call82_v0)) (Φ₂ (Proc.devRef .tc Cert.ReferenceIdeal.main_call82_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 29) rfl) :) e56
  have e59 : @Eq ((⟨Cert.KernelIdeal.S131072, .i32⟩ : BufTy).Contents (Elt F)) (Φ₁ (Proc.devRef .tc Cert.KernelIdeal.main_call82_v1)) (Φ₂ (Proc.devRef .tc Cert.ReferenceIdeal.main_call82_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 30) rfl) :) e58
  have e60 : @Eq ((⟨Cert.KernelIdeal.S131072, .i32⟩ : BufTy).Contents (Elt F)) (Φ₁ (Proc.devRef .tc Cert.KernelIdeal.main_call82_v2)) (Φ₂ (Proc.devRef .tc Cert.ReferenceIdeal.main_call82_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 31) rfl) :) e59 e55
  have e61 : @Eq ((⟨Cert.KernelIdeal.S_, .i32⟩ : BufTy).Contents (Elt F)) (Φ₁ (Proc.devRef .tc Cert.KernelIdeal.main_call82_v3)) (Φ₂ (Proc.devRef .tc Cert.ReferenceIdeal.main_call82_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 32) rfl) :) e57
  have e62 : @Eq ((⟨Cert.KernelIdeal.S131072, .i32⟩ : BufTy).Contents (Elt F)) (Φ₁ (Proc.devRef .tc Cert.KernelIdeal.main_call82_v4)) (Φ₂ (Proc.devRef .tc Cert.ReferenceIdeal.main_call82_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 33) rfl) :) e61
  have e63 : @Eq ((⟨Cert.KernelIdeal.S131072, .i32⟩ : BufTy).Contents (Elt F)) (Φ₁ (Proc.devRef .tc Cert.KernelIdeal.main_v2622)) (Φ₂ (Proc.devRef .tc Cert.ReferenceIdeal.main_v2638)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 34) rfl) :) e62 e60
  have e64 : @Eq ((⟨Cert.KernelIdeal.S_, .i32⟩ : BufTy).Contents (Elt F)) (Φ₁ (Proc.devRef .tc Cert.KernelIdeal.main_c_799)) (Φ₂ (Proc.devRef .tc Cert.ReferenceIdeal.main_c_799)) := step0 (β := ((⟨Cert.KernelIdeal.S_, .i32⟩ : BufTy).Contents (Elt F))) (eq0 (at_ fa6 (i := 0) rfl) :) (eq0 (at_ fb1 (i := 35) rfl) :)
  have e65 : @Eq ((⟨Cert.KernelIdeal.S131072, .i32⟩ : BufTy).Contents (Elt F)) (Φ₁ (Proc.devRef .tc Cert.KernelIdeal.main_v2623)) (Φ₂ (Proc.devRef .tc Cert.ReferenceIdeal.main_v2639)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 36) rfl) :) e64
  have e66 : @Eq ((⟨Cert.KernelIdeal.S131072, .i32⟩ : BufTy).Contents (Elt F)) (Φ₁ (Proc.devRef .tc Cert.KernelIdeal.main_v2624)) (Φ₂ (Proc.devRef .tc Cert.ReferenceIdeal.main_v2640)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 37) rfl) :) e63 e65
  have e67 : @Eq ((⟨Cert.KernelIdeal.S_, .i32⟩ : BufTy).Contents (Elt F)) (Φ₁ (Proc.devRef .tc Cert.KernelIdeal.main_c_800)) (Φ₂ (Proc.devRef .tc Cert.ReferenceIdeal.main_c_800)) := step0 (β := ((⟨Cert.KernelIdeal.S_, .i32⟩ : BufTy).Contents (Elt F))) (eq0 (at_ fa6 (i := 3) rfl) :) (eq0 (at_ fb1 (i := 38) rfl) :)
  have e68 : @Eq ((⟨Cert.KernelIdeal.S_, .i32⟩ : BufTy).Contents (Elt F)) (Φ₁ (Proc.devRef .tc Cert.KernelIdeal.main_c_801)) (Φ₂ (Proc.devRef .tc Cert.ReferenceIdeal.main_c_801)) := step0 (β := ((⟨Cert.KernelIdeal.S_, .i32⟩ : BufTy).Contents (Elt F))) (eq0 (at_ fa6 (i := 4) rfl) :) (eq0 (at_ fb1 (i := 39) rfl) :)
  have e69 : @Eq ((⟨Cert.KernelIdeal.S_, .i32⟩ : BufTy).Contents (Elt F)) (Φ₁ (Proc.devRef .tc Cert.KernelIdeal.main_call83_v0)) (Φ₂ (Proc.devRef .tc Cert.ReferenceIdeal.main_call83_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 40) rfl) :) e67
  have e70 : @Eq ((⟨Cert.KernelIdeal.S131072, .i32⟩ : BufTy).Contents (Elt F)) (Φ₁ (Proc.devRef .tc Cert.KernelIdeal.main_call83_v1)) (Φ₂ (Proc.devRef .tc Cert.ReferenceIdeal.main_call83_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 41) rfl) :) e69
  have e71 : @Eq ((⟨Cert.KernelIdeal.S131072, .i32⟩ : BufTy).Contents (Elt F)) (Φ₁ (Proc.devRef .tc Cert.KernelIdeal.main_call83_v2)) (Φ₂ (Proc.devRef .tc Cert.ReferenceIdeal.main_call83_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 42) rfl) :) e70 e66
  have e72 : @Eq ((⟨Cert.KernelIdeal.S_, .i32⟩ : BufTy).Contents (Elt F)) (Φ₁ (Proc.devRef .tc Cert.KernelIdeal.main_call83_v3)) (Φ₂ (Proc.devRef .tc Cert.ReferenceIdeal.main_call83_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 43) rfl) :) e68
  have e73 : @Eq ((⟨Cert.KernelIdeal.S131072, .i32⟩ : BufTy).Contents (Elt F)) (Φ₁ (Proc.devRef .tc Cert.KernelIdeal.main_call83_v4)) (Φ₂ (Proc.devRef .tc Cert.ReferenceIdeal.main_call83_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 44) rfl) :) e72
  have e74 : @Eq ((⟨Cert.KernelIdeal.S131072, .i32⟩ : BufTy).Contents (Elt F)) (Φ₁ (Proc.devRef .tc Cert.KernelIdeal.main_v2625)) (Φ₂ (Proc.devRef .tc Cert.ReferenceIdeal.main_v2641)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 45) rfl) :) e73 e71
  have e75 : @Eq ((⟨Cert.KernelIdeal.S_, .i32⟩ : BufTy).Contents (Elt F)) (Φ₁ (Proc.devRef .tc Cert.KernelIdeal.main_c_802)) (Φ₂ (Proc.devRef .tc Cert.ReferenceIdeal.main_c_802)) := step0 (β := ((⟨Cert.KernelIdeal.S_, .i32⟩ : BufTy).Contents (Elt F))) (eq0 (at_ fa8 (i := 0) rfl) :) (eq0 (at_ fb1 (i := 46) rfl) :)
  have e76 : @Eq ((⟨Cert.KernelIdeal.S131072, .i32⟩ : BufTy).Contents (Elt F)) (Φ₁ (Proc.devRef .tc Cert.KernelIdeal.main_v2626)) (Φ₂ (Proc.devRef .tc Cert.ReferenceIdeal.main_v2642)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 47) rfl) :) e75
  have e77 : @Eq ((⟨Cert.KernelIdeal.S131072, .i1⟩ : BufTy).Contents (Elt F)) (Φ₁ (Proc.devRef .tc Cert.KernelIdeal.main_v2627)) (Φ₂ (Proc.devRef .tc Cert.ReferenceIdeal.main_v2643)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 48) rfl) :) e63 e76
  have e78 : @Eq ((⟨Cert.KernelIdeal.S_, .i32⟩ : BufTy).Contents (Elt F)) (Φ₁ (Proc.devRef .tc Cert.KernelIdeal.main_c_803)) (Φ₂ (Proc.devRef .tc Cert.ReferenceIdeal.main_c_803)) := step0 (β := ((⟨Cert.KernelIdeal.S_, .i32⟩ : BufTy).Contents (Elt F))) (eq0 (at_ fa8 (i := 3) rfl) :) (eq0 (at_ fb1 (i := 49) rfl) :)
  have e79 : @Eq ((⟨Cert.KernelIdeal.S131072, .i32⟩ : BufTy).Contents (Elt F)) (Φ₁ (Proc.devRef .tc Cert.KernelIdeal.main_v2628)) (Φ₂ (Proc.devRef .tc Cert.ReferenceIdeal.main_v2644)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 50) rfl) :) e78
  have e80 : @Eq ((⟨Cert.KernelIdeal.S131072, .i32⟩ : BufTy).Contents (Elt F)) (Φ₁ (Proc.devRef .tc Cert.KernelIdeal.main_v2629)) (Φ₂ (Proc.devRef .tc Cert.ReferenceIdeal.main_v2645)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 51) rfl) :) e63 e79
  have e81 : @Eq ((⟨Cert.KernelIdeal.S131072, .i32⟩ : BufTy).Contents (Elt F)) (Φ₁ (Proc.devRef .tc Cert.KernelIdeal.main_v2630)) (Φ₂ (Proc.devRef .tc Cert.ReferenceIdeal.main_v2646)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 52) rfl) :) e77 e80 e63
  have e82 : @Eq ((⟨Cert.KernelIdeal.S_, .i32⟩ : BufTy).Contents (Elt F)) (Φ₁ (Proc.devRef .tc Cert.KernelIdeal.main_c_804)) (Φ₂ (Proc.devRef .tc Cert.ReferenceIdeal.main_c_804)) := step0 (β := ((⟨Cert.KernelIdeal.S_, .i32⟩ : BufTy).Contents (Elt F))) (eq0 (at_ fa8 (i := 7) rfl) :) (eq0 (at_ fb1 (i := 53) rfl) :)
  have e83 : @Eq ((⟨Cert.KernelIdeal.S131072, .i32⟩ : BufTy).Contents (Elt F)) (Φ₁ (Proc.devRef .tc Cert.KernelIdeal.main_v2631)) (Φ₂ (Proc.devRef .tc Cert.ReferenceIdeal.main_v2647)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 54) rfl) :) e82
  have e84 : @Eq ((⟨Cert.KernelIdeal.S131072, .i1⟩ : BufTy).Contents (Elt F)) (Φ₁ (Proc.devRef .tc Cert.KernelIdeal.main_v2632)) (Φ₂ (Proc.devRef .tc Cert.ReferenceIdeal.main_v2648)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 55) rfl) :) e43 e83
  have e85 : @Eq ((⟨Cert.KernelIdeal.S_, .i32⟩ : BufTy).Contents (Elt F)) (Φ₁ (Proc.devRef .tc Cert.KernelIdeal.main_c_805)) (Φ₂ (Proc.devRef .tc Cert.ReferenceIdeal.main_c_805)) := step0 (β := ((⟨Cert.KernelIdeal.S_, .i32⟩ : BufTy).Contents (Elt F))) (eq0 (at_ fa8 (i := 10) rfl) :) (eq0 (at_ fb1 (i := 56) rfl) :)
  have e86 : @Eq ((⟨Cert.KernelIdeal.S131072, .i32⟩ : BufTy).Contents (Elt F)) (Φ₁ (Proc.devRef .tc Cert.KernelIdeal.main_v2633)) (Φ₂ (Proc.devRef .tc Cert.ReferenceIdeal.main_v2649)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 57) rfl) :) e85
  have e87 : @Eq ((⟨Cert.KernelIdeal.S131072, .i32⟩ : BufTy).Contents (Elt F)) (Φ₁ (Proc.devRef .tc Cert.KernelIdeal.main_v2634)) (Φ₂ (Proc.devRef .tc Cert.ReferenceIdeal.main_v2650)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 58) rfl) :) e43 e86
  have e88 : @Eq ((⟨Cert.KernelIdeal.S131072, .i32⟩ : BufTy).Contents (Elt F)) (Φ₁ (Proc.devRef .tc Cert.KernelIdeal.main_v2635)) (Φ₂ (Proc.devRef .tc Cert.ReferenceIdeal.main_v2651)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 59) rfl) :) e84 e87 e43
  have e89 : @Eq ((⟨Cert.KernelIdeal.S131072x1, .i32⟩ : BufTy).Contents (Elt F)) (Φ₁ (Proc.devRef .tc Cert.KernelIdeal.main_v2636)) (Φ₂ (Proc.devRef .tc Cert.ReferenceIdeal.main_v2652)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 60) rfl) :) e81
  have e90 : @Eq ((⟨Cert.KernelIdeal.S131072x1, .i32⟩ : BufTy).Contents (Elt F)) (Φ₁ (Proc.devRef .tc Cert.KernelIdeal.main_v2637)) (Φ₂ (Proc.devRef .tc Cert.ReferenceIdeal.main_v2653)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 61) rfl) :) e88
  have e91 : @Eq ((⟨Cert.KernelIdeal.S131072x2, .i32⟩ : BufTy).Contents (Elt F)) (Φ₁ (Proc.devRef .tc Cert.KernelIdeal.main_v2638)) (Φ₂ (Proc.devRef .tc Cert.ReferenceIdeal.main_v2654)) := by rw [eq2 (at_ fa8 (i := 16) rfl), eq2 (at_ fb1 (i := 62) rfl), e89, e90] <;> rfl
  have e92 : @Eq ((⟨Cert.KernelIdeal.S32x131072, .f32⟩ : BufTy).Contents (Elt F)) (Φ₁ (Proc.devRef .tc Cert.KernelIdeal.main_v2639)) (Φ₂ (Proc.devRef .tc Cert.ReferenceIdeal.main_v2655)) := by rw [eq2 (at_ fa8 (i := 17) rfl), eq2 (at_ fb1 (i := 63) rfl), x2, e91] <;> rfl
  have e93 : @Eq ((⟨Cert.KernelIdeal.S_, .i32⟩ : BufTy).Contents (Elt F)) (Φ₁ (Proc.devRef .tc Cert.KernelIdeal.main_c_806)) (Φ₂ (Proc.devRef .tc Cert.ReferenceIdeal.main_c_806)) := step0 (β := ((⟨Cert.KernelIdeal.S_, .i32⟩ : BufTy).Contents (Elt F))) (eq0 (at_ fa8 (i := 18) rfl) :) (eq0 (at_ fb1 (i := 64) rfl) :)
  have e94 : @Eq ((⟨Cert.KernelIdeal.S131072, .i32⟩ : BufTy).Contents (Elt F)) (Φ₁ (Proc.devRef .tc Cert.KernelIdeal.main_v2640)) (Φ₂ (Proc.devRef .tc Cert.ReferenceIdeal.main_v2656)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 65) rfl) :) e93
  have e95 : @Eq ((⟨Cert.KernelIdeal.S131072, .i1⟩ : BufTy).Contents (Elt F)) (Φ₁ (Proc.devRef .tc Cert.KernelIdeal.main_v2641)) (Φ₂ (Proc.devRef .tc Cert.ReferenceIdeal.main_v2657)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 66) rfl) :) e63 e94
  have e96 : @Eq ((⟨Cert.KernelIdeal.S_, .i32⟩ : BufTy).Contents (Elt F)) (Φ₁ (Proc.devRef .tc Cert.KernelIdeal.main_c_807)) (Φ₂ (Proc.devRef .tc Cert.ReferenceIdeal.main_c_807)) := step0 (β := ((⟨Cert.KernelIdeal.S_, .i32⟩ : BufTy).Contents (Elt F))) (eq0 (at_ fa8 (i := 21) rfl) :) (eq0 (at_ fb1 (i := 67) rfl) :)
  have e97 : @Eq ((⟨Cert.KernelIdeal.S131072, .i32⟩ : BufTy).Contents (Elt F)) (Φ₁ (Proc.devRef .tc Cert.KernelIdeal.main_v2642)) (Φ₂ (Proc.devRef .tc Cert.ReferenceIdeal.main_v2658)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 68) rfl) :) e96
  have e98 : @Eq ((⟨Cert.KernelIdeal.S131072, .i32⟩ : BufTy).Contents (Elt F)) (Φ₁ (Proc.devRef .tc Cert.KernelIdeal.main_v2643)) (Φ₂ (Proc.devRef .tc Cert.ReferenceIdeal.main_v2659)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 69) rfl) :) e63 e97
  have e99 : @Eq ((⟨Cert.KernelIdeal.S131072, .i32⟩ : BufTy).Contents (Elt F)) (Φ₁ (Proc.devRef .tc Cert.KernelIdeal.main_v2644)) (Φ₂ (Proc.devRef .tc Cert.ReferenceIdeal.main_v2660)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 70) rfl) :) e95 e98 e63
  have e100 : @Eq ((⟨Cert.KernelIdeal.S_, .i32⟩ : BufTy).Contents (Elt F)) (Φ₁ (Proc.devRef .tc Cert.KernelIdeal.main_c_808)) (Φ₂ (Proc.devRef .tc Cert.ReferenceIdeal.main_c_808)) := step0 (β := ((⟨Cert.KernelIdeal.S_, .i32⟩ : BufTy).Contents (Elt F))) (eq0 (at_ fa8 (i := 25) rfl) :) (eq0 (at_ fb1 (i := 71) rfl) :)
  have e101 : @Eq ((⟨Cert.KernelIdeal.S131072, .i32⟩ : BufTy).Contents (Elt F)) (Φ₁ (Proc.devRef .tc Cert.KernelIdeal.main_v2645)) (Φ₂ (Proc.devRef .tc Cert.ReferenceIdeal.main_v2661)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 72) rfl) :) e100
  have e102 : @Eq ((⟨Cert.KernelIdeal.S131072, .i1⟩ : BufTy).Contents (Elt F)) (Φ₁ (Proc.devRef .tc Cert.KernelIdeal.main_v2646)) (Φ₂ (Proc.devRef .tc Cert.ReferenceIdeal.main_v2662)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 73) rfl) :) e54 e101
  have e103 : @Eq ((⟨Cert.KernelIdeal.S_, .i32⟩ : BufTy).Contents (Elt F)) (Φ₁ (Proc.devRef .tc Cert.KernelIdeal.main_c_809)) (Φ₂ (Proc.devRef .tc Cert.ReferenceIdeal.main_c_809)) := step0 (β := ((⟨Cert.KernelIdeal.S_, .i32⟩ : BufTy).Contents (Elt F))) (eq0 (at_ fa8 (i := 28) rfl) :) (eq0 (at_ fb1 (i := 74) rfl) :)
  have e104 : @Eq ((⟨Cert.KernelIdeal.S131072, .i32⟩ : BufTy).Contents (Elt F)) (Φ₁ (Proc.devRef .tc Cert.KernelIdeal.main_v2647)) (Φ₂ (Proc.devRef .tc Cert.ReferenceIdeal.main_v2663)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 75) rfl) :) e103
  have e105 : @Eq ((⟨Cert.KernelIdeal.S131072, .i32⟩ : BufTy).Contents (Elt F)) (Φ₁ (Proc.devRef .tc Cert.KernelIdeal.main_v2648)) (Φ₂ (Proc.devRef .tc Cert.ReferenceIdeal.main_v2664)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 76) rfl) :) e54 e104
  have e106 : @Eq ((⟨Cert.KernelIdeal.S131072, .i32⟩ : BufTy).Contents (Elt F)) (Φ₁ (Proc.devRef .tc Cert.KernelIdeal.main_v2649)) (Φ₂ (Proc.devRef .tc Cert.ReferenceIdeal.main_v2665)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 77) rfl) :) e102 e105 e54
  have e107 : @Eq ((⟨Cert.KernelIdeal.S131072x1, .i32⟩ : BufTy).Contents (Elt F)) (Φ₁ (Proc.devRef .tc Cert.KernelIdeal.main_v2650)) (Φ₂ (Proc.devRef .tc Cert.ReferenceIdeal.main_v2666)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 78) rfl) :) e99
  have e108 : @Eq ((⟨Cert.KernelIdeal.S131072x1, .i32⟩ : BufTy).Contents (Elt F)) (Φ₁ (Proc.devRef .tc Cert.KernelIdeal.main_v2651)) (Φ₂ (Proc.devRef .tc Cert.ReferenceIdeal.main_v2667)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 79) rfl) :) e106
  have e109 : @Eq ((⟨Cert.KernelIdeal.S131072x2, .i32⟩ : BufTy).Contents (Elt F)) (Φ₁ (Proc.devRef .tc Cert.KernelIdeal.main_v2652)) (Φ₂ (Proc.devRef .tc Cert.ReferenceIdeal.main_v2668)) := by rw [eq2 (at_ fa8 (i := 34) rfl), eq2 (at_ fb2 (i := 0) rfl), e107, e108] <;> rfl
  have e110 : @Eq ((⟨Cert.KernelIdeal.S32x131072, .f32⟩ : BufTy).Contents (Elt F)) (Φ₁ (Proc.devRef .tc Cert.KernelIdeal.main_v2653)) (Φ₂ (Proc.devRef .tc Cert.ReferenceIdeal.main_v2669)) := by rw [eq2 (at_ fa8 (i := 35) rfl), eq2 (at_ fb2 (i := 1) rfl), x2, e109] <;> rfl
  have e111 : @Eq ((⟨Cert.KernelIdeal.S_, .i32⟩ : BufTy).Contents (Elt F)) (Φ₁ (Proc.devRef .tc Cert.KernelIdeal.main_c_810)) (Φ₂ (Proc.devRef .tc Cert.ReferenceIdeal.main_c_810)) := step0 (β := ((⟨Cert.KernelIdeal.S_, .i32⟩ : BufTy).Contents (Elt F))) (eq0 (at_ fa8 (i := 36) rfl) :) (eq0 (at_ fb2 (i := 2) rfl) :)
  have e112 : @Eq ((⟨Cert.KernelIdeal.S131072, .i32⟩ : BufTy).Contents (Elt F)) (Φ₁ (Proc.devRef .tc Cert.KernelIdeal.main_v2654)) (Φ₂ (Proc.devRef .tc Cert.ReferenceIdeal.main_v2670)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 3) rfl) :) e111
  have e113 : @Eq ((⟨Cert.KernelIdeal.S131072, .i1⟩ : BufTy).Contents (Elt F)) (Φ₁ (Proc.devRef .tc Cert.KernelIdeal.main_v2655)) (Φ₂ (Proc.devRef .tc Cert.ReferenceIdeal.main_v2671)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 4) rfl) :) e74 e112
  have e114 : @Eq ((⟨Cert.KernelIdeal.S_, .i32⟩ : BufTy).Contents (Elt F)) (Φ₁ (Proc.devRef .tc Cert.KernelIdeal.main_c_811)) (Φ₂ (Proc.devRef .tc Cert.ReferenceIdeal.main_c_811)) := step0 (β := ((⟨Cert.KernelIdeal.S_, .i32⟩ : BufTy).Contents (Elt F))) (eq0 (at_ fa8 (i := 39) rfl) :) (eq0 (at_ fb2 (i := 5) rfl) :)
  have e115 : @Eq ((⟨Cert.KernelIdeal.S131072, .i32⟩ : BufTy).Contents (Elt F)) (Φ₁ (Proc.devRef .tc Cert.KernelIdeal.main_v2656)) (Φ₂ (Proc.devRef .tc Cert.ReferenceIdeal.main_v2672)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 6) rfl) :) e114
  have e116 : @Eq ((⟨Cert.KernelIdeal.S131072, .i32⟩ : BufTy).Contents (Elt F)) (Φ₁ (Proc.devRef .tc Cert.KernelIdeal.main_v2657)) (Φ₂ (Proc.devRef .tc Cert.ReferenceIdeal.main_v2673)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 7) rfl) :) e74 e115
  have e117 : @Eq ((⟨Cert.KernelIdeal.S131072, .i32⟩ : BufTy).Contents (Elt F)) (Φ₁ (Proc.devRef .tc Cert.KernelIdeal.main_v2658)) (Φ₂ (Proc.devRef .tc Cert.ReferenceIdeal.main_v2674)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 8) rfl) :) e113 e116 e74
  have e118 : @Eq ((⟨Cert.KernelIdeal.S_, .i32⟩ : BufTy).Contents (Elt F)) (Φ₁ (Proc.devRef .tc Cert.KernelIdeal.main_c_812)) (Φ₂ (Proc.devRef .tc Cert.ReferenceIdeal.main_c_812)) := step0 (β := ((⟨Cert.KernelIdeal.S_, .i32⟩ : BufTy).Contents (Elt F))) (eq0 (at_ fa8 (i := 43) rfl) :) (eq0 (at_ fb2 (i := 9) rfl) :)
  have e119 : @Eq ((⟨Cert.KernelIdeal.S131072, .i32⟩ : BufTy).Contents (Elt F)) (Φ₁ (Proc.devRef .tc Cert.KernelIdeal.main_v2659)) (Φ₂ (Proc.devRef .tc Cert.ReferenceIdeal.main_v2675)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 10) rfl) :) e118
  have e120 : @Eq ((⟨Cert.KernelIdeal.S131072, .i1⟩ : BufTy).Contents (Elt F)) (Φ₁ (Proc.devRef .tc Cert.KernelIdeal.main_v2660)) (Φ₂ (Proc.devRef .tc Cert.ReferenceIdeal.main_v2676)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 11) rfl) :) e43 e119
  have e121 : @Eq ((⟨Cert.KernelIdeal.S_, .i32⟩ : BufTy).Contents (Elt F)) (Φ₁ (Proc.devRef .tc Cert.KernelIdeal.main_c_813)) (Φ₂ (Proc.devRef .tc Cert.ReferenceIdeal.main_c_813)) := step0 (β := ((⟨Cert.KernelIdeal.S_, .i32⟩ : BufTy).Contents (Elt F))) (eq0 (at_ fa8 (i := 46) rfl) :) (eq0 (at_ fb2 (i := 12) rfl) :)
  have e122 : @Eq ((⟨Cert.KernelIdeal.S131072, .i32⟩ : BufTy).Contents (Elt F)) (Φ₁ (Proc.devRef .tc Cert.KernelIdeal.main_v2661)) (Φ₂ (Proc.devRef .tc Cert.ReferenceIdeal.main_v2677)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 13) rfl) :) e121
  have e123 : @Eq ((⟨Cert.KernelIdeal.S131072, .i32⟩ : BufTy).Contents (Elt F)) (Φ₁ (Proc.devRef .tc Cert.KernelIdeal.main_v2662)) (Φ₂ (Proc.devRef .tc Cert.ReferenceIdeal.main_v2678)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 14) rfl) :) e43 e122
  have e124 : @Eq ((⟨Cert.KernelIdeal.S131072, .i32⟩ : BufTy).Contents (Elt F)) (Φ₁ (Proc.devRef .tc Cert.KernelIdeal.main_v2663)) (Φ₂ (Proc.devRef .tc Cert.ReferenceIdeal.main_v2679)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 15) rfl) :) e120 e123 e43
  have e125 : @Eq ((⟨Cert.KernelIdeal.S131072x1, .i32⟩ : BufTy).Contents (Elt F)) (Φ₁ (Proc.devRef .tc Cert.KernelIdeal.main_v2664)) (Φ₂ (Proc.devRef .tc Cert.ReferenceIdeal.main_v2680)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 16) rfl) :) e117
  have e126 : @Eq ((⟨Cert.KernelIdeal.S131072x1, .i32⟩ : BufTy).Contents (Elt F)) (Φ₁ (Proc.devRef .tc Cert.KernelIdeal.main_v2665)) (Φ₂ (Proc.devRef .tc Cert.ReferenceIdeal.main_v2681)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 17) rfl) :) e124
  have e127 : @Eq ((⟨Cert.KernelIdeal.S131072x2, .i32⟩ : BufTy).Contents (Elt F)) (Φ₁ (Proc.devRef .tc Cert.KernelIdeal.main_v2666)) (Φ₂ (Proc.devRef .tc Cert.ReferenceIdeal.main_v2682)) := by rw [eq2 (at_ fa8 (i := 52) rfl), eq2 (at_ fb2 (i := 18) rfl), e125, e126] <;> rfl
  have e128 : @Eq ((⟨Cert.KernelIdeal.S32x131072, .f32⟩ : BufTy).Contents (Elt F)) (Φ₁ (Proc.devRef .tc Cert.KernelIdeal.main_v2667)) (Φ₂ (Proc.devRef .tc Cert.ReferenceIdeal.main_v2683)) := by rw [eq2 (at_ fa8 (i := 53) rfl), eq2 (at_ fb2 (i := 19) rfl), x2, e127] <;> rfl
  have e129 : @Eq ((⟨Cert.KernelIdeal.S_, .i32⟩ : BufTy).Contents (Elt F)) (Φ₁ (Proc.devRef .tc Cert.KernelIdeal.main_c_814)) (Φ₂ (Proc.devRef .tc Cert.ReferenceIdeal.main_c_814)) := step0 (β := ((⟨Cert.KernelIdeal.S_, .i32⟩ : BufTy).Contents (Elt F))) (eq0 (at_ fa8 (i := 54) rfl) :) (eq0 (at_ fb2 (i := 20) rfl) :)
  have e130 : @Eq ((⟨Cert.KernelIdeal.S131072, .i32⟩ : BufTy).Contents (Elt F)) (Φ₁ (Proc.devRef .tc Cert.KernelIdeal.main_v2668)) (Φ₂ (Proc.devRef .tc Cert.ReferenceIdeal.main_v2684)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 21) rfl) :) e129
  have e131 : @Eq ((⟨Cert.KernelIdeal.S131072, .i1⟩ : BufTy).Contents (Elt F)) (Φ₁ (Proc.devRef .tc Cert.KernelIdeal.main_v2669)) (Φ₂ (Proc.devRef .tc Cert.ReferenceIdeal.main_v2685)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 22) rfl) :) e74 e130
  have e132 : @Eq ((⟨Cert.KernelIdeal.S_, .i32⟩ : BufTy).Contents (Elt F)) (Φ₁ (Proc.devRef .tc Cert.KernelIdeal.main_c_815)) (Φ₂ (Proc.devRef .tc Cert.ReferenceIdeal.main_c_815)) := step0 (β := ((⟨Cert.KernelIdeal.S_, .i32⟩ : BufTy).Contents (Elt F))) (eq0 (at_ fa8 (i := 57) rfl) :) (eq0 (at_ fb2 (i := 23) rfl) :)
  have e133 : @Eq ((⟨Cert.KernelIdeal.S131072, .i32⟩ : BufTy).Contents (Elt F)) (Φ₁ (Proc.devRef .tc Cert.KernelIdeal.main_v2670)) (Φ₂ (Proc.devRef .tc Cert.ReferenceIdeal.main_v2686)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 24) rfl) :) e132
  have e134 : @Eq ((⟨Cert.KernelIdeal.S131072, .i32⟩ : BufTy).Contents (Elt F)) (Φ₁ (Proc.devRef .tc Cert.KernelIdeal.main_v2671)) (Φ₂ (Proc.devRef .tc Cert.ReferenceIdeal.main_v2687)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 25) rfl) :) e74 e133
  have e135 : @Eq ((⟨Cert.KernelIdeal.S131072, .i32⟩ : BufTy).Contents (Elt F)) (Φ₁ (Proc.devRef .tc Cert.KernelIdeal.main_v2672)) (Φ₂ (Proc.devRef .tc Cert.ReferenceIdeal.main_v2688)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 26) rfl) :) e131 e134 e74
  have e136 : @Eq ((⟨Cert.KernelIdeal.S_, .i32⟩ : BufTy).Contents (Elt F)) (Φ₁ (Proc.devRef .tc Cert.KernelIdeal.main_c_816)) (Φ₂ (Proc.devRef .tc Cert.ReferenceIdeal.main_c_816)) := step0 (β := ((⟨Cert.KernelIdeal.S_, .i32⟩ : BufTy).Contents (Elt F))) (eq0 (at_ fa8 (i := 61) rfl) :) (eq0 (at_ fb2 (i := 27) rfl) :)
  have e137 : @Eq ((⟨Cert.KernelIdeal.S131072, .i32⟩ : BufTy).Contents (Elt F)) (Φ₁ (Proc.devRef .tc Cert.KernelIdeal.main_v2673)) (Φ₂ (Proc.devRef .tc Cert.ReferenceIdeal.main_v2689)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 28) rfl) :) e136
  have e138 : @Eq ((⟨Cert.KernelIdeal.S131072, .i1⟩ : BufTy).Contents (Elt F)) (Φ₁ (Proc.devRef .tc Cert.KernelIdeal.main_v2674)) (Φ₂ (Proc.devRef .tc Cert.ReferenceIdeal.main_v2690)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 29) rfl) :) e54 e137
  have e139 : @Eq ((⟨Cert.KernelIdeal.S_, .i32⟩ : BufTy).Contents (Elt F)) (Φ₁ (Proc.devRef .tc Cert.KernelIdeal.main_c_817)) (Φ₂ (Proc.devRef .tc Cert.ReferenceIdeal.main_c_817)) := step0 (β := ((⟨Cert.KernelIdeal.S_, .i32⟩ : BufTy).Contents (Elt F))) (eq0 (at_ fa8 (i := 64) rfl) :) (eq0 (at_ fb2 (i := 30) rfl) :)
  have e140 : @Eq ((⟨Cert.KernelIdeal.S131072, .i32⟩ : BufTy).Contents (Elt F)) (Φ₁ (Proc.devRef .tc Cert.KernelIdeal.main_v2675)) (Φ₂ (Proc.devRef .tc Cert.ReferenceIdeal.main_v2691)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 31) rfl) :) e139
  have e141 : @Eq ((⟨Cert.KernelIdeal.S131072, .i32⟩ : BufTy).Contents (Elt F)) (Φ₁ (Proc.devRef .tc Cert.KernelIdeal.main_v2676)) (Φ₂ (Proc.devRef .tc Cert.ReferenceIdeal.main_v2692)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 32) rfl) :) e54 e140
  have e142 : @Eq ((⟨Cert.KernelIdeal.S131072, .i32⟩ : BufTy).Contents (Elt F)) (Φ₁ (Proc.devRef .tc Cert.KernelIdeal.main_v2677)) (Φ₂ (Proc.devRef .tc Cert.ReferenceIdeal.main_v2693)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 33) rfl) :) e138 e141 e54
  have e143 : @Eq ((⟨Cert.KernelIdeal.S131072x1, .i32⟩ : BufTy).Contents (Elt F)) (Φ₁ (Proc.devRef .tc Cert.KernelIdeal.main_v2678)) (Φ₂ (Proc.devRef .tc Cert.ReferenceIdeal.main_v2694)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 34) rfl) :) e135
  have e144 : @Eq ((⟨Cert.KernelIdeal.S131072x1, .i32⟩ : BufTy).Contents (Elt F)) (Φ₁ (Proc.devRef .tc Cert.KernelIdeal.main_v2679)) (Φ₂ (Proc.devRef .tc Cert.ReferenceIdeal.main_v2695)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 35) rfl) :) e142
  have e145 : @Eq ((⟨Cert.KernelIdeal.S131072x2, .i32⟩ : BufTy).Contents (Elt F)) (Φ₁ (Proc.devRef .tc Cert.KernelIdeal.main_v2680)) (Φ₂ (Proc.devRef .tc Cert.ReferenceIdeal.main_v2696)) := by rw [eq2 (at_ fa8 (i := 70) rfl), eq2 (at_ fb2 (i := 36) rfl), e143, e144] <;> rfl
  have e146 : @Eq ((⟨Cert.KernelIdeal.S32x131072, .f32⟩ : BufTy).Contents (Elt F)) (Φ₁ (Proc.devRef .tc Cert.KernelIdeal.main_v2681)) (Φ₂ (Proc.devRef .tc Cert.ReferenceIdeal.main_v2697)) := by rw [eq2 (at_ fa8 (i := 71) rfl), eq2 (at_ fb2 (i := 37) rfl), x2, e145] <;> rfl
  have e147 : @Eq ((⟨Cert.KernelIdeal.S_, .f32⟩ : BufTy).Contents (Elt F)) (Φ₁ (Proc.devRef .tc Cert.KernelIdeal.main_cst_818)) (Φ₂ (Proc.devRef .tc Cert.ReferenceIdeal.main_cst_818)) := step0 (β := ((⟨Cert.KernelIdeal.S_, .f32⟩ : BufTy).Contents (Elt F))) (eq0 (at_ fa8 (i := 72) rfl) :) (eq0 (at_ fb2 (i := 38) rfl) :)
  have e148 : @Eq ((⟨Cert.KernelIdeal.S131072, .f32⟩ : BufTy).Contents (Elt F)) (Φ₁ (Proc.devRef .tc Cert.KernelIdeal.main_v2682)) (Φ₂ (Proc.devRef .tc Cert.ReferenceIdeal.main_v2698)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 39) rfl) :) e147
  have e149 : @Eq ((⟨Cert.KernelIdeal.S131072, .f32⟩ : BufTy).Contents (Elt F)) (Φ₁ (Proc.devRef .tc Cert.KernelIdeal.main_v2683)) (Φ₂ (Proc.devRef .tc Cert.ReferenceIdeal.main_v2699)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 40) rfl) :) e148 e33
  have e150 : @Eq ((⟨Cert.KernelIdeal.S1x131072, .f32⟩ : BufTy).Contents (Elt F)) (Φ₁ (Proc.devRef .tc Cert.KernelIdeal.main_v2684)) (Φ₂ (Proc.devRef .tc Cert.ReferenceIdeal.main_v2700)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 41) rfl) :) e149
  have e151 : @Eq ((⟨Cert.KernelIdeal.S32x131072, .f32⟩ : BufTy).Contents (Elt F)) (Φ₁ (Proc.devRef .tc Cert.KernelIdeal.main_v2685)) (Φ₂ (Proc.devRef .tc Cert.ReferenceIdeal.main_v2701)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 42) rfl) :) e150
  have e152 : @Eq ((⟨Cert.KernelIdeal.S32x131072, .f32⟩ : BufTy).Contents (Elt F)) (Φ₁ (Proc.devRef .tc Cert.KernelIdeal.main_v2686)) (Φ₂ (Proc.devRef .tc Cert.ReferenceIdeal.main_v2702)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 43) rfl) :) e92 e151
  have e153 : @Eq ((⟨Cert.KernelIdeal.S_, .f32⟩ : BufTy).Contents (Elt F)) (Φ₁ (Proc.devRef .tc Cert.KernelIdeal.main_cst_819)) (Φ₂ (Proc.devRef .tc Cert.ReferenceIdeal.main_cst_819)) := step0 (β := ((⟨Cert.KernelIdeal.S_, .f32⟩ : BufTy).Contents (Elt F))) (eq0 (at_ fa8 (i := 78) rfl) :) (eq0 (at_ fb2 (i := 44) rfl) :)
  have e154 : @Eq ((⟨Cert.KernelIdeal.S131072, .f32⟩ : BufTy).Contents (Elt F)) (Φ₁ (Proc.devRef .tc Cert.KernelIdeal.main_v2687)) (Φ₂ (Proc.devRef .tc Cert.ReferenceIdeal.main_v2703)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 45) rfl) :) e153
  have e155 : @Eq ((⟨Cert.KernelIdeal.S131072, .f32⟩ : BufTy).Contents (Elt F)) (Φ₁ (Proc.devRef .tc Cert.KernelIdeal.main_v2688)) (Φ₂ (Proc.devRef .tc Cert.ReferenceIdeal.main_v2704)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 46) rfl) :) e154 e34
  have e156 : @Eq ((⟨Cert.KernelIdeal.S1x131072, .f32⟩ : BufTy).Contents (Elt F)) (Φ₁ (Proc.devRef .tc Cert.KernelIdeal.main_v2689)) (Φ₂ (Proc.devRef .tc Cert.ReferenceIdeal.main_v2705)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 47) rfl) :) e155
  have e157 : @Eq ((⟨Cert.KernelIdeal.S32x131072, .f32⟩ : BufTy).Contents (Elt F)) (Φ₁ (Proc.devRef .tc Cert.KernelIdeal.main_v2690)) (Φ₂ (Proc.devRef .tc Cert.ReferenceIdeal.main_v2706)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 48) rfl) :) e156
  have e158 : @Eq ((⟨Cert.KernelIdeal.S32x131072, .f32⟩ : BufTy).Contents (Elt F)) (Φ₁ (Proc.devRef .tc Cert.KernelIdeal.main_v2691)) (Φ₂ (Proc.devRef .tc Cert.ReferenceIdeal.main_v2707)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 49) rfl) :) e152 e157
  have e159 : @Eq ((⟨Cert.KernelIdeal.S1x131072, .f32⟩ : BufTy).Contents (Elt F)) (Φ₁ (Proc.devRef .tc Cert.KernelIdeal.main_v2692)) (Φ₂ (Proc.devRef .tc Cert.ReferenceIdeal.main_v2708)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 50) rfl) :) e33
  have e160 : @Eq ((⟨Cert.KernelIdeal.S32x131072, .f32⟩ : BufTy).Contents (Elt F)) (Φ₁ (Proc.devRef .tc Cert.KernelIdeal.main_v2693)) (Φ₂ (Proc.devRef .tc Cert.ReferenceIdeal.main_v2709)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 51) rfl) :) e159
  have e161 : @Eq ((⟨Cert.KernelIdeal.S32x131072, .f32⟩ : BufTy).Contents (Elt F)) (Φ₁ (Proc.devRef .tc Cert.KernelIdeal.main_v2694)) (Φ₂ (Proc.devRef .tc Cert.ReferenceIdeal.main_v2710)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 52) rfl) :) e110 e160
  have e162 : @Eq ((⟨Cert.KernelIdeal.S_, .f32⟩ : BufTy).Contents (Elt F)) (Φ₁ (Proc.devRef .tc Cert.KernelIdeal.main_cst_820)) (Φ₂ (Proc.devRef .tc Cert.ReferenceIdeal.main_cst_820)) := step0 (β := ((⟨Cert.KernelIdeal.S_, .f32⟩ : BufTy).Contents (Elt F))) (eq0 (at_ fa8 (i := 87) rfl) :) (eq0 (at_ fb2 (i := 53) rfl) :)
  have e163 : @Eq ((⟨Cert.KernelIdeal.S131072, .f32⟩ : BufTy).Contents (Elt F)) (Φ₁ (Proc.devRef .tc Cert.KernelIdeal.main_v2695)) (Φ₂ (Proc.devRef .tc Cert.ReferenceIdeal.main_v2711)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 54) rfl) :) e162
  have e164 : @Eq ((⟨Cert.KernelIdeal.S131072, .f32⟩ : BufTy).Contents (Elt F)) (Φ₁ (Proc.devRef .tc Cert.KernelIdeal.main_v2696)) (Φ₂ (Proc.devRef .tc Cert.ReferenceIdeal.main_v2712)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 55) rfl) :) e163 e34
  have e165 : @Eq ((⟨Cert.KernelIdeal.S1x131072, .f32⟩ : BufTy).Contents (Elt F)) (Φ₁ (Proc.devRef .tc Cert.KernelIdeal.main_v2697)) (Φ₂ (Proc.devRef .tc Cert.ReferenceIdeal.main_v2713)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 56) rfl) :) e164
  have e166 : @Eq ((⟨Cert.KernelIdeal.S32x131072, .f32⟩ : BufTy).Contents (Elt F)) (Φ₁ (Proc.devRef .tc Cert.KernelIdeal.main_v2698)) (Φ₂ (Proc.devRef .tc Cert.ReferenceIdeal.main_v2714)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 57) rfl) :) e165
  have e167 : @Eq ((⟨Cert.KernelIdeal.S32x131072, .f32⟩ : BufTy).Contents (Elt F)) (Φ₁ (Proc.devRef .tc Cert.KernelIdeal.main_v2699)) (Φ₂ (Proc.devRef .tc Cert.ReferenceIdeal.main_v2715)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 58) rfl) :) e161 e166
  have e168 : @Eq ((⟨Cert.KernelIdeal.S32x131072, .f32⟩ : BufTy).Contents (Elt F)) (Φ₁ (Proc.devRef .tc Cert.KernelIdeal.main_v2700)) (Φ₂ (Proc.devRef .tc Cert.ReferenceIdeal.main_v2716)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 59) rfl) :) e158 e167
  have e169 : @Eq ((⟨Cert.KernelIdeal.S_, .f32⟩ : BufTy).Contents (Elt F)) (Φ₁ (Proc.devRef .tc Cert.KernelIdeal.main_cst_821)) (Φ₂ (Proc.devRef .tc Cert.ReferenceIdeal.main_cst_821)) := step0 (β := ((⟨Cert.KernelIdeal.S_, .f32⟩ : BufTy).Contents (Elt F))) (eq0 (at_ fa8 (i := 94) rfl) :) (eq0 (at_ fb3 (i := 0) rfl) :)
  have e170 : @Eq ((⟨Cert.KernelIdeal.S131072, .f32⟩ : BufTy).Contents (Elt F)) (Φ₁ (Proc.devRef .tc Cert.KernelIdeal.main_v2701)) (Φ₂ (Proc.devRef .tc Cert.ReferenceIdeal.main_v2717)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 1) rfl) :) e169
  have e171 : @Eq ((⟨Cert.KernelIdeal.S131072, .f32⟩ : BufTy).Contents (Elt F)) (Φ₁ (Proc.devRef .tc Cert.KernelIdeal.main_v2702)) (Φ₂ (Proc.devRef .tc Cert.ReferenceIdeal.main_v2718)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 2) rfl) :) e170 e33
  have e172 : @Eq ((⟨Cert.KernelIdeal.S1x131072, .f32⟩ : BufTy).Contents (Elt F)) (Φ₁ (Proc.devRef .tc Cert.KernelIdeal.main_v2703)) (Φ₂ (Proc.devRef .tc Cert.ReferenceIdeal.main_v2719)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 3) rfl) :) e171
  have e173 : @Eq ((⟨Cert.KernelIdeal.S32x131072, .f32⟩ : BufTy).Contents (Elt F)) (Φ₁ (Proc.devRef .tc Cert.KernelIdeal.main_v2704)) (Φ₂ (Proc.devRef .tc Cert.ReferenceIdeal.main_v2720)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 4) rfl) :) e172
  have e174 : @Eq ((⟨Cert.KernelIdeal.S32x131072, .f32⟩ : BufTy).Contents (Elt F)) (Φ₁ (Proc.devRef .tc Cert.KernelIdeal.main_v2705)) (Φ₂ (Proc.devRef .tc Cert.ReferenceIdeal.main_v2721)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 5) rfl) :) e128 e173
  have e175 : @Eq ((⟨Cert.KernelIdeal.S1x131072, .f32⟩ : BufTy).Contents (Elt F)) (Φ₁ (Proc.devRef .tc Cert.KernelIdeal.main_v2706)) (Φ₂ (Proc.devRef .tc Cert.ReferenceIdeal.main_v2722)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 6) rfl) :) e34
  have e176 : @Eq ((⟨Cert.KernelIdeal.S32x131072, .f32⟩ : BufTy).Contents (Elt F)) (Φ₁ (Proc.devRef .tc Cert.KernelIdeal.main_v2707)) (Φ₂ (Proc.devRef .tc Cert.ReferenceIdeal.main_v2723)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 7) rfl) :) e175
  have e177 : @Eq ((⟨Cert.KernelIdeal.S32x131072, .f32⟩ : BufTy).Contents (Elt F)) (Φ₁ (Proc.devRef .tc Cert.KernelIdeal.main_v2708)) (Φ₂ (Proc.devRef .tc Cert.ReferenceIdeal.main_v2724)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 8) rfl) :) e174 e176
  have e178 : @Eq ((⟨Cert.KernelIdeal.S32x131072, .f32⟩ : BufTy).Contents (Elt F)) (Φ₁ (Proc.devRef .tc Cert.KernelIdeal.main_v2709)) (Φ₂ (Proc.devRef .tc Cert.ReferenceIdeal.main_v2725)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 9) rfl) :) e168 e177
  have e179 : @Eq ((⟨Cert.KernelIdeal.S1x131072, .f32⟩ : BufTy).Contents (Elt F)) (Φ₁ (Proc.devRef .tc Cert.KernelIdeal.main_v2710)) (Φ₂ (Proc.devRef .tc Cert.ReferenceIdeal.main_v2726)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 10) rfl) :) e33
  have e180 : @Eq ((⟨Cert.KernelIdeal.S32x131072, .f32⟩ : BufTy).Contents (Elt F)) (Φ₁ (Proc.devRef .tc Cert.KernelIdeal.main_v2711)) (Φ₂ (Proc.devRef .tc Cert.ReferenceIdeal.main_v2727)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 11) rfl) :) e179
  have e181 : @Eq ((⟨Cert.KernelIdeal.S32x131072, .f32⟩ : BufTy).Contents (Elt F)) (Φ₁ (Proc.devRef .tc Cert.KernelIdeal.main_v2712)) (Φ₂ (Proc.devRef .tc Cert.ReferenceIdeal.main_v2728)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 12) rfl) :) e146 e180
  have e182 : @Eq ((⟨Cert.KernelIdeal.S1x131072, .f32⟩ : BufTy).Contents (Elt F)) (Φ₁ (Proc.devRef .tc Cert.KernelIdeal.main_v2713)) (Φ₂ (Proc.devRef .tc Cert.ReferenceIdeal.main_v2729)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 13) rfl) :) e34
  have e183 : @Eq ((⟨Cert.KernelIdeal.S32x131072, .f32⟩ : BufTy).Contents (Elt F)) (Φ₁ (Proc.devRef .tc Cert.KernelIdeal.main_v2714)) (Φ₂ (Proc.devRef .tc Cert.ReferenceIdeal.main_v2730)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 14) rfl) :) e182
  have e184 : @Eq ((⟨Cert.KernelIdeal.S32x131072, .f32⟩ : BufTy).Contents (Elt F)) (Φ₁ (Proc.devRef .tc Cert.KernelIdeal.main_v2715)) (Φ₂ (Proc.devRef .tc Cert.ReferenceIdeal.main_v2731)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 15) rfl) :) e181 e183
  have e185 : @Eq ((⟨Cert.KernelIdeal.S32x131072, .f32⟩ : BufTy).Contents (Elt F)) (Φ₁ (Proc.devRef .tc Cert.KernelIdeal.main_v2716)) (Φ₂ (Proc.devRef .tc Cert.ReferenceIdeal.main_v2732)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 16) rfl) :) e178 e184
  have e186 : @Eq ((⟨Cert.KernelIdeal.S131072x32, .f32⟩ : BufTy).Contents (Elt F)) (Φ₁ (Proc.devRef .tc Cert.KernelIdeal.main_v2717)) (Φ₂ (Proc.devRef .tc Cert.ReferenceIdeal.main_v2733)) := by rw [eq1 (at_ fa8 (i := 111) rfl), eq1 (at_ fb3 (i := 17) rfl), e185] <;> rfl
  exact e186

end Cert.Bridge

end
-- ==== Proof.SimB21.lean ====
/- Operations 3962 … 4148 of the one program and 3979 … 4165 of the other apply the same functions to corresponding
   buffers. If both programs' final contents satisfy their own lines' equations and agree on the buffers these operations
   read from outside, they agree on what these operations write: one congruence per operation, in program order. -/
import proofs.«133805_j10187662426200_2_alg».proof.Proof.KIStretch4
import proofs.«133805_j10187662426200_2_alg».proof.Proof.RefOps7
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B21 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_168 : List (HloOp Cert.KernelIdeal.τ Cert.KernelIdeal.sig (Elt F))).Forall fun op => ∀ b ∈ op.writes, Φ₁ b = op.result Φ₁ b)
    (fa1 : (Cert.KernelIdeal.Gen.hostOps0_169 : List (HloOp Cert.KernelIdeal.τ Cert.KernelIdeal.sig (Elt F))).Forall fun op => ∀ b ∈ op.writes, Φ₁ b = op.result Φ₁ b)
    (fa2 : (Cert.KernelIdeal.Gen.hostOps0_170 : List (HloOp Cert.KernelIdeal.τ Cert.KernelIdeal.sig (Elt F))).Forall fun op => ∀ b ∈ op.writes, Φ₁ b = op.result Φ₁ b)
    (fa3 : (Cert.KernelIdeal.Gen.hostOps0_171 : List (HloOp Cert.KernelIdeal.τ Cert.KernelIdeal.sig (Elt F))).Forall fun op => ∀ b ∈ op.writes, Φ₁ b = op.result Φ₁ b)
    (fa4 : (Cert.KernelIdeal.Gen.hostOps0_172 : List (HloOp Cert.KernelIdeal.τ Cert.KernelIdeal.sig (Elt F))).Forall fun op => ∀ b ∈ op.writes, Φ₁ b = op.result Φ₁ b)
    (fa5 : (Cert.KernelIdeal.Gen.hostOps0_173 : List (HloOp Cert.KernelIdeal.τ Cert.KernelIdeal.sig (Elt F))).Forall fun op => ∀ b ∈ op.writes, Φ₁ b = op.result Φ₁ b)
    (fa6 : (Cert.KernelIdeal.Gen.hostOps0_174 : List (HloOp Cert.KernelIdeal.τ Cert.KernelIdeal.sig (Elt F))).Forall fun op => ∀ b ∈ op.writes, Φ₁ b = op.result Φ₁ b)
    (fa7 : (Cert.KernelIdeal.Gen.hostOps0_175 : List (HloOp Cert.KernelIdeal.τ Cert.KernelIdeal.sig (Elt F))).Forall fun op => ∀ b ∈ op.writes, Φ₁ b = op.result Φ₁ b)
    (fa8 : (Cert.KernelIdeal.Gen.hostOps0_176 : List (HloOp Cert.KernelIdeal.τ Cert.KernelIdeal.sig (Elt F))).Forall fun op => ∀ b ∈ op.writes, Φ₁ b = op.result Φ₁ b)
    (fb0 : (Cert.ReferenceIdeal.Ops.w59 : List (HloOp Cert.ReferenceIdeal.τ Cert.ReferenceIdeal.sig (Elt F))).Forall fun op => ∀ b ∈ op.writes, Φ₂ b = op.result Φ₂ b)
    (fb1 : (Cert.ReferenceIdeal.Ops.w60 : List (HloOp Cert.ReferenceIdeal.τ Cert.ReferenceIdeal.sig (Elt F))).Forall fun op => ∀ b ∈ op.writes, Φ₂ b = op.result Φ₂ b)
    (fb2 : (Cert.ReferenceIdeal.Ops.w61 : List (HloOp Cert.ReferenceIdeal.τ Cert.ReferenceIdeal.sig (Elt F))).Forall fun op => ∀ b ∈ op.writes, Φ₂ b = op.result Φ₂ b)
    (fb3 : (Cert.ReferenceIdeal.Ops.w62 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_20)) (Φ₂ (Proc.devRef .tc Cert.ReferenceIdeal.main_c_20)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x512x512, .f32⟩ : BufTy).Contents (Elt F)) (Φ₁ (Proc.devRef .tc Cert.KernelIdeal.main_arg23)) (Φ₂ (Proc.devRef .tc Cert.ReferenceIdeal.main_arg23)))
    : @Eq ((⟨Cert.KernelIdeal.S131072x32, .f32⟩ : BufTy).Contents (Elt F)) (Φ₁ (Proc.devRef .tc Cert.KernelIdeal.main_v2846)) (Φ₂ (Proc.devRef .tc Cert.ReferenceIdeal.main_v2863)) := by
  have e0 : @Eq ((⟨Cert.KernelIdeal.S_, .i32⟩ : BufTy).Contents (Elt F)) (Φ₁ (Proc.devRef .tc Cert.KernelIdeal.main_c_822)) (Φ₂ (Proc.devRef .tc Cert.ReferenceIdeal.main_c_822)) := step0 (β := ((⟨Cert.KernelIdeal.S_, .i32⟩ : BufTy).Contents (Elt F))) (eq0 (at_ fa0 (i := 112) rfl) :) (eq0 (at_ fb0 (i := 19) rfl) :)
  have e1 : @Eq ((⟨Cert.KernelIdeal.S2, .i32⟩ : BufTy).Contents (Elt F)) (Φ₁ (Proc.devRef .tc Cert.KernelIdeal.main_v2718)) (Φ₂ (Proc.devRef .tc Cert.ReferenceIdeal.main_v2735)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 20) rfl) :) e0
  have e2 : @Eq ((⟨Cert.KernelIdeal.S2, .i1⟩ : BufTy).Contents (Elt F)) (Φ₁ (Proc.devRef .tc Cert.KernelIdeal.main_v2719)) (Φ₂ (Proc.devRef .tc Cert.ReferenceIdeal.main_v2736)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 21) rfl) :) x0 e1
  have e3 : @Eq ((⟨Cert.KernelIdeal.S_, .i32⟩ : BufTy).Contents (Elt F)) (Φ₁ (Proc.devRef .tc Cert.KernelIdeal.main_c_823)) (Φ₂ (Proc.devRef .tc Cert.ReferenceIdeal.main_c_823)) := step0 (β := ((⟨Cert.KernelIdeal.S_, .i32⟩ : BufTy).Contents (Elt F))) (eq0 (at_ fa0 (i := 115) rfl) :) (eq0 (at_ fb0 (i := 22) rfl) :)
  have e4 : @Eq ((⟨Cert.KernelIdeal.S2, .i32⟩ : BufTy).Contents (Elt F)) (Φ₁ (Proc.devRef .tc Cert.KernelIdeal.main_v2720)) (Φ₂ (Proc.devRef .tc Cert.ReferenceIdeal.main_v2737)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 23) rfl) :) e3
  have e5 : @Eq ((⟨Cert.KernelIdeal.S2, .i32⟩ : BufTy).Contents (Elt F)) (Φ₁ (Proc.devRef .tc Cert.KernelIdeal.main_v2721)) (Φ₂ (Proc.devRef .tc Cert.ReferenceIdeal.main_v2738)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 24) rfl) :) x0 e4
  have e6 : @Eq ((⟨Cert.KernelIdeal.S2, .i32⟩ : BufTy).Contents (Elt F)) (Φ₁ (Proc.devRef .tc Cert.KernelIdeal.main_v2722)) (Φ₂ (Proc.devRef .tc Cert.ReferenceIdeal.main_v2739)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 25) rfl) :) e2 e5 x0
  have e7 : @Eq ((⟨Cert.KernelIdeal.S2x1, .i32⟩ : BufTy).Contents (Elt F)) (Φ₁ (Proc.devRef .tc Cert.KernelIdeal.main_v2723)) (Φ₂ (Proc.devRef .tc Cert.ReferenceIdeal.main_v2740)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 26) rfl) :) e6
  have e8 : @Eq ((⟨Cert.KernelIdeal.S131072x2, .f32⟩ : BufTy).Contents (Elt F)) (Φ₁ (Proc.devRef .tc Cert.KernelIdeal.main_v2724)) (Φ₂ (Proc.devRef .tc Cert.ReferenceIdeal.main_v2741)) := by rw [eq2 (at_ fa0 (i := 120) rfl), eq2 (at_ fb0 (i := 27) rfl), x1, e7] <;> rfl
  have e9 : @Eq ((⟨Cert.KernelIdeal.S131072x1, .f32⟩ : BufTy).Contents (Elt F)) (Φ₁ (Proc.devRef .tc Cert.KernelIdeal.main_v2725)) (Φ₂ (Proc.devRef .tc Cert.ReferenceIdeal.main_v2742)) := by rw [eq1 (at_ fa0 (i := 121) rfl), eq1 (at_ fb0 (i := 28) rfl), e8] <;> rfl
  have e10 : @Eq ((⟨Cert.KernelIdeal.S131072, .f32⟩ : BufTy).Contents (Elt F)) (Φ₁ (Proc.devRef .tc Cert.KernelIdeal.main_v2726)) (Φ₂ (Proc.devRef .tc Cert.ReferenceIdeal.main_v2743)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 29) rfl) :) e9
  have e11 : @Eq ((⟨Cert.KernelIdeal.S_, .f32⟩ : BufTy).Contents (Elt F)) (Φ₁ (Proc.devRef .tc Cert.KernelIdeal.main_cst_824)) (Φ₂ (Proc.devRef .tc Cert.ReferenceIdeal.main_cst_824)) := step0 (β := ((⟨Cert.KernelIdeal.S_, .f32⟩ : BufTy).Contents (Elt F))) (eq0 (at_ fa0 (i := 123) rfl) :) (eq0 (at_ fb0 (i := 30) rfl) :)
  have e12 : @Eq ((⟨Cert.KernelIdeal.S131072, .f32⟩ : BufTy).Contents (Elt F)) (Φ₁ (Proc.devRef .tc Cert.KernelIdeal.main_v2727)) (Φ₂ (Proc.devRef .tc Cert.ReferenceIdeal.main_v2744)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 31) rfl) :) e11
  have e13 : @Eq ((⟨Cert.KernelIdeal.S131072, .f32⟩ : BufTy).Contents (Elt F)) (Φ₁ (Proc.devRef .tc Cert.KernelIdeal.main_v2728)) (Φ₂ (Proc.devRef .tc Cert.ReferenceIdeal.main_v2745)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 32) rfl) :) e10 e12
  have e14 : @Eq ((⟨Cert.KernelIdeal.S_, .f32⟩ : BufTy).Contents (Elt F)) (Φ₁ (Proc.devRef .tc Cert.KernelIdeal.main_cst_825)) (Φ₂ (Proc.devRef .tc Cert.ReferenceIdeal.main_cst_825)) := step0 (β := ((⟨Cert.KernelIdeal.S_, .f32⟩ : BufTy).Contents (Elt F))) (eq0 (at_ fa0 (i := 126) rfl) :) (eq0 (at_ fb0 (i := 33) rfl) :)
  have e15 : @Eq ((⟨Cert.KernelIdeal.S131072, .f32⟩ : BufTy).Contents (Elt F)) (Φ₁ (Proc.devRef .tc Cert.KernelIdeal.main_v2729)) (Φ₂ (Proc.devRef .tc Cert.ReferenceIdeal.main_v2746)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 34) rfl) :) e14
  have e16 : @Eq ((⟨Cert.KernelIdeal.S131072, .f32⟩ : BufTy).Contents (Elt F)) (Φ₁ (Proc.devRef .tc Cert.KernelIdeal.main_v2730)) (Φ₂ (Proc.devRef .tc Cert.ReferenceIdeal.main_v2747)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 35) rfl) :) e13 e15
  have e17 : @Eq ((⟨Cert.KernelIdeal.S_, .f32⟩ : BufTy).Contents (Elt F)) (Φ₁ (Proc.devRef .tc Cert.KernelIdeal.main_cst_826)) (Φ₂ (Proc.devRef .tc Cert.ReferenceIdeal.main_cst_826)) := step0 (β := ((⟨Cert.KernelIdeal.S_, .f32⟩ : BufTy).Contents (Elt F))) (eq0 (at_ fa0 (i := 129) rfl) :) (eq0 (at_ fb0 (i := 36) rfl) :)
  have e18 : @Eq ((⟨Cert.KernelIdeal.S131072, .f32⟩ : BufTy).Contents (Elt F)) (Φ₁ (Proc.devRef .tc Cert.KernelIdeal.main_v2731)) (Φ₂ (Proc.devRef .tc Cert.ReferenceIdeal.main_v2748)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 37) rfl) :) e17
  have e19 : @Eq ((⟨Cert.KernelIdeal.S131072, .f32⟩ : BufTy).Contents (Elt F)) (Φ₁ (Proc.devRef .tc Cert.KernelIdeal.main_v2732)) (Φ₂ (Proc.devRef .tc Cert.ReferenceIdeal.main_v2749)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 38) rfl) :) e16 e18
  have e20 : @Eq ((⟨Cert.KernelIdeal.S131072x1, .f32⟩ : BufTy).Contents (Elt F)) (Φ₁ (Proc.devRef .tc Cert.KernelIdeal.main_v2733)) (Φ₂ (Proc.devRef .tc Cert.ReferenceIdeal.main_v2750)) := by rw [eq1 (at_ fa0 (i := 132) rfl), eq1 (at_ fb0 (i := 39) rfl), e8] <;> rfl
  have e21 : @Eq ((⟨Cert.KernelIdeal.S131072, .f32⟩ : BufTy).Contents (Elt F)) (Φ₁ (Proc.devRef .tc Cert.KernelIdeal.main_v2734)) (Φ₂ (Proc.devRef .tc Cert.ReferenceIdeal.main_v2751)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 40) rfl) :) e20
  have e22 : @Eq ((⟨Cert.KernelIdeal.S_, .f32⟩ : BufTy).Contents (Elt F)) (Φ₁ (Proc.devRef .tc Cert.KernelIdeal.main_cst_827)) (Φ₂ (Proc.devRef .tc Cert.ReferenceIdeal.main_cst_827)) := step0 (β := ((⟨Cert.KernelIdeal.S_, .f32⟩ : BufTy).Contents (Elt F))) (eq0 (at_ fa0 (i := 134) rfl) :) (eq0 (at_ fb0 (i := 41) rfl) :)
  have e23 : @Eq ((⟨Cert.KernelIdeal.S131072, .f32⟩ : BufTy).Contents (Elt F)) (Φ₁ (Proc.devRef .tc Cert.KernelIdeal.main_v2735)) (Φ₂ (Proc.devRef .tc Cert.ReferenceIdeal.main_v2752)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 42) rfl) :) e22
  have e24 : @Eq ((⟨Cert.KernelIdeal.S131072, .f32⟩ : BufTy).Contents (Elt F)) (Φ₁ (Proc.devRef .tc Cert.KernelIdeal.main_v2736)) (Φ₂ (Proc.devRef .tc Cert.ReferenceIdeal.main_v2753)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 43) rfl) :) e21 e23
  have e25 : @Eq ((⟨Cert.KernelIdeal.S_, .f32⟩ : BufTy).Contents (Elt F)) (Φ₁ (Proc.devRef .tc Cert.KernelIdeal.main_cst_828)) (Φ₂ (Proc.devRef .tc Cert.ReferenceIdeal.main_cst_828)) := step0 (β := ((⟨Cert.KernelIdeal.S_, .f32⟩ : BufTy).Contents (Elt F))) (eq0 (at_ fa0 (i := 137) rfl) :) (eq0 (at_ fb0 (i := 44) rfl) :)
  have e26 : @Eq ((⟨Cert.KernelIdeal.S131072, .f32⟩ : BufTy).Contents (Elt F)) (Φ₁ (Proc.devRef .tc Cert.KernelIdeal.main_v2737)) (Φ₂ (Proc.devRef .tc Cert.ReferenceIdeal.main_v2754)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 45) rfl) :) e25
  have e27 : @Eq ((⟨Cert.KernelIdeal.S131072, .f32⟩ : BufTy).Contents (Elt F)) (Φ₁ (Proc.devRef .tc Cert.KernelIdeal.main_v2738)) (Φ₂ (Proc.devRef .tc Cert.ReferenceIdeal.main_v2755)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 46) rfl) :) e24 e26
  have e28 : @Eq ((⟨Cert.KernelIdeal.S_, .f32⟩ : BufTy).Contents (Elt F)) (Φ₁ (Proc.devRef .tc Cert.KernelIdeal.main_cst_829)) (Φ₂ (Proc.devRef .tc Cert.ReferenceIdeal.main_cst_829)) := step0 (β := ((⟨Cert.KernelIdeal.S_, .f32⟩ : BufTy).Contents (Elt F))) (eq0 (at_ fa0 (i := 140) rfl) :) (eq0 (at_ fb0 (i := 47) rfl) :)
  have e29 : @Eq ((⟨Cert.KernelIdeal.S131072, .f32⟩ : BufTy).Contents (Elt F)) (Φ₁ (Proc.devRef .tc Cert.KernelIdeal.main_v2739)) (Φ₂ (Proc.devRef .tc Cert.ReferenceIdeal.main_v2756)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 48) rfl) :) e28
  have e30 : @Eq ((⟨Cert.KernelIdeal.S131072, .f32⟩ : BufTy).Contents (Elt F)) (Φ₁ (Proc.devRef .tc Cert.KernelIdeal.main_v2740)) (Φ₂ (Proc.devRef .tc Cert.ReferenceIdeal.main_v2757)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 49) rfl) :) e27 e29
  have e31 : @Eq ((⟨Cert.KernelIdeal.S131072, .f32⟩ : BufTy).Contents (Elt F)) (Φ₁ (Proc.devRef .tc Cert.KernelIdeal.main_v2741)) (Φ₂ (Proc.devRef .tc Cert.ReferenceIdeal.main_v2758)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 50) rfl) :) e19
  have e32 : @Eq ((⟨Cert.KernelIdeal.S131072, .f32⟩ : BufTy).Contents (Elt F)) (Φ₁ (Proc.devRef .tc Cert.KernelIdeal.main_v2742)) (Φ₂ (Proc.devRef .tc Cert.ReferenceIdeal.main_v2759)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 51) rfl) :) e30
  have e33 : @Eq ((⟨Cert.KernelIdeal.S131072, .f32⟩ : BufTy).Contents (Elt F)) (Φ₁ (Proc.devRef .tc Cert.KernelIdeal.main_v2743)) (Φ₂ (Proc.devRef .tc Cert.ReferenceIdeal.main_v2760)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 52) rfl) :) e19 e31
  have e34 : @Eq ((⟨Cert.KernelIdeal.S131072, .f32⟩ : BufTy).Contents (Elt F)) (Φ₁ (Proc.devRef .tc Cert.KernelIdeal.main_v2744)) (Φ₂ (Proc.devRef .tc Cert.ReferenceIdeal.main_v2761)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 53) rfl) :) e30 e32
  have e35 : @Eq ((⟨Cert.KernelIdeal.S131072, .i32⟩ : BufTy).Contents (Elt F)) (Φ₁ (Proc.devRef .tc Cert.KernelIdeal.main_v2745)) (Φ₂ (Proc.devRef .tc Cert.ReferenceIdeal.main_v2762)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 54) rfl) :) e31
  have e36 : @Eq ((⟨Cert.KernelIdeal.S_, .i32⟩ : BufTy).Contents (Elt F)) (Φ₁ (Proc.devRef .tc Cert.KernelIdeal.main_c_830)) (Φ₂ (Proc.devRef .tc Cert.ReferenceIdeal.main_c_830)) := step0 (β := ((⟨Cert.KernelIdeal.S_, .i32⟩ : BufTy).Contents (Elt F))) (eq0 (at_ fa0 (i := 148) rfl) :) (eq0 (at_ fb0 (i := 55) rfl) :)
  have e37 : @Eq ((⟨Cert.KernelIdeal.S_, .i32⟩ : BufTy).Contents (Elt F)) (Φ₁ (Proc.devRef .tc Cert.KernelIdeal.main_c_831)) (Φ₂ (Proc.devRef .tc Cert.ReferenceIdeal.main_c_831)) := step0 (β := ((⟨Cert.KernelIdeal.S_, .i32⟩ : BufTy).Contents (Elt F))) (eq0 (at_ fa0 (i := 149) rfl) :) (eq0 (at_ fb0 (i := 56) rfl) :)
  have e38 : @Eq ((⟨Cert.KernelIdeal.S_, .i32⟩ : BufTy).Contents (Elt F)) (Φ₁ (Proc.devRef .tc Cert.KernelIdeal.main_call84_v0)) (Φ₂ (Proc.devRef .tc Cert.ReferenceIdeal.main_call84_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 57) rfl) :) e36
  have e39 : @Eq ((⟨Cert.KernelIdeal.S131072, .i32⟩ : BufTy).Contents (Elt F)) (Φ₁ (Proc.devRef .tc Cert.KernelIdeal.main_call84_v1)) (Φ₂ (Proc.devRef .tc Cert.ReferenceIdeal.main_call84_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 58) rfl) :) e38
  have e40 : @Eq ((⟨Cert.KernelIdeal.S131072, .i32⟩ : BufTy).Contents (Elt F)) (Φ₁ (Proc.devRef .tc Cert.KernelIdeal.main_call84_v2)) (Φ₂ (Proc.devRef .tc Cert.ReferenceIdeal.main_call84_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 59) rfl) :) e39 e35
  have e41 : @Eq ((⟨Cert.KernelIdeal.S_, .i32⟩ : BufTy).Contents (Elt F)) (Φ₁ (Proc.devRef .tc Cert.KernelIdeal.main_call84_v3)) (Φ₂ (Proc.devRef .tc Cert.ReferenceIdeal.main_call84_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 60) rfl) :) e37
  have e42 : @Eq ((⟨Cert.KernelIdeal.S131072, .i32⟩ : BufTy).Contents (Elt F)) (Φ₁ (Proc.devRef .tc Cert.KernelIdeal.main_call84_v4)) (Φ₂ (Proc.devRef .tc Cert.ReferenceIdeal.main_call84_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 61) rfl) :) e41
  have e43 : @Eq ((⟨Cert.KernelIdeal.S131072, .i32⟩ : BufTy).Contents (Elt F)) (Φ₁ (Proc.devRef .tc Cert.KernelIdeal.main_v2746)) (Φ₂ (Proc.devRef .tc Cert.ReferenceIdeal.main_v2763)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 62) rfl) :) e42 e40
  have e44 : @Eq ((⟨Cert.KernelIdeal.S_, .i32⟩ : BufTy).Contents (Elt F)) (Φ₁ (Proc.devRef .tc Cert.KernelIdeal.main_c_832)) (Φ₂ (Proc.devRef .tc Cert.ReferenceIdeal.main_c_832)) := step0 (β := ((⟨Cert.KernelIdeal.S_, .i32⟩ : BufTy).Contents (Elt F))) (eq0 (at_ fa2 (i := 0) rfl) :) (eq0 (at_ fb0 (i := 63) rfl) :)
  have e45 : @Eq ((⟨Cert.KernelIdeal.S131072, .i32⟩ : BufTy).Contents (Elt F)) (Φ₁ (Proc.devRef .tc Cert.KernelIdeal.main_v2747)) (Φ₂ (Proc.devRef .tc Cert.ReferenceIdeal.main_v2764)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb0 (i := 64) rfl) :) e44
  have e46 : @Eq ((⟨Cert.KernelIdeal.S131072, .i32⟩ : BufTy).Contents (Elt F)) (Φ₁ (Proc.devRef .tc Cert.KernelIdeal.main_v2748)) (Φ₂ (Proc.devRef .tc Cert.ReferenceIdeal.main_v2765)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 0) rfl) :) e43 e45
  have e47 : @Eq ((⟨Cert.KernelIdeal.S_, .i32⟩ : BufTy).Contents (Elt F)) (Φ₁ (Proc.devRef .tc Cert.KernelIdeal.main_c_833)) (Φ₂ (Proc.devRef .tc Cert.ReferenceIdeal.main_c_833)) := step0 (β := ((⟨Cert.KernelIdeal.S_, .i32⟩ : BufTy).Contents (Elt F))) (eq0 (at_ fa2 (i := 3) rfl) :) (eq0 (at_ fb1 (i := 1) rfl) :)
  have e48 : @Eq ((⟨Cert.KernelIdeal.S_, .i32⟩ : BufTy).Contents (Elt F)) (Φ₁ (Proc.devRef .tc Cert.KernelIdeal.main_c_834)) (Φ₂ (Proc.devRef .tc Cert.ReferenceIdeal.main_c_834)) := step0 (β := ((⟨Cert.KernelIdeal.S_, .i32⟩ : BufTy).Contents (Elt F))) (eq0 (at_ fa2 (i := 4) rfl) :) (eq0 (at_ fb1 (i := 2) rfl) :)
  have e49 : @Eq ((⟨Cert.KernelIdeal.S_, .i32⟩ : BufTy).Contents (Elt F)) (Φ₁ (Proc.devRef .tc Cert.KernelIdeal.main_call85_v0)) (Φ₂ (Proc.devRef .tc Cert.ReferenceIdeal.main_call85_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 3) rfl) :) e47
  have e50 : @Eq ((⟨Cert.KernelIdeal.S131072, .i32⟩ : BufTy).Contents (Elt F)) (Φ₁ (Proc.devRef .tc Cert.KernelIdeal.main_call85_v1)) (Φ₂ (Proc.devRef .tc Cert.ReferenceIdeal.main_call85_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 4) rfl) :) e49
  have e51 : @Eq ((⟨Cert.KernelIdeal.S131072, .i32⟩ : BufTy).Contents (Elt F)) (Φ₁ (Proc.devRef .tc Cert.KernelIdeal.main_call85_v2)) (Φ₂ (Proc.devRef .tc Cert.ReferenceIdeal.main_call85_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 5) rfl) :) e50 e46
  have e52 : @Eq ((⟨Cert.KernelIdeal.S_, .i32⟩ : BufTy).Contents (Elt F)) (Φ₁ (Proc.devRef .tc Cert.KernelIdeal.main_call85_v3)) (Φ₂ (Proc.devRef .tc Cert.ReferenceIdeal.main_call85_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 6) rfl) :) e48
  have e53 : @Eq ((⟨Cert.KernelIdeal.S131072, .i32⟩ : BufTy).Contents (Elt F)) (Φ₁ (Proc.devRef .tc Cert.KernelIdeal.main_call85_v4)) (Φ₂ (Proc.devRef .tc Cert.ReferenceIdeal.main_call85_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 7) rfl) :) e52
  have e54 : @Eq ((⟨Cert.KernelIdeal.S131072, .i32⟩ : BufTy).Contents (Elt F)) (Φ₁ (Proc.devRef .tc Cert.KernelIdeal.main_v2749)) (Φ₂ (Proc.devRef .tc Cert.ReferenceIdeal.main_v2766)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 8) rfl) :) e53 e51
  have e55 : @Eq ((⟨Cert.KernelIdeal.S131072, .i32⟩ : BufTy).Contents (Elt F)) (Φ₁ (Proc.devRef .tc Cert.KernelIdeal.main_v2750)) (Φ₂ (Proc.devRef .tc Cert.ReferenceIdeal.main_v2767)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 9) rfl) :) e32
  have e56 : @Eq ((⟨Cert.KernelIdeal.S_, .i32⟩ : BufTy).Contents (Elt F)) (Φ₁ (Proc.devRef .tc Cert.KernelIdeal.main_c_835)) (Φ₂ (Proc.devRef .tc Cert.ReferenceIdeal.main_c_835)) := step0 (β := ((⟨Cert.KernelIdeal.S_, .i32⟩ : BufTy).Contents (Elt F))) (eq0 (at_ fa4 (i := 1) rfl) :) (eq0 (at_ fb1 (i := 10) rfl) :)
  have e57 : @Eq ((⟨Cert.KernelIdeal.S_, .i32⟩ : BufTy).Contents (Elt F)) (Φ₁ (Proc.devRef .tc Cert.KernelIdeal.main_c_836)) (Φ₂ (Proc.devRef .tc Cert.ReferenceIdeal.main_c_836)) := step0 (β := ((⟨Cert.KernelIdeal.S_, .i32⟩ : BufTy).Contents (Elt F))) (eq0 (at_ fa4 (i := 2) rfl) :) (eq0 (at_ fb1 (i := 11) rfl) :)
  have e58 : @Eq ((⟨Cert.KernelIdeal.S_, .i32⟩ : BufTy).Contents (Elt F)) (Φ₁ (Proc.devRef .tc Cert.KernelIdeal.main_call86_v0)) (Φ₂ (Proc.devRef .tc Cert.ReferenceIdeal.main_call86_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 12) rfl) :) e56
  have e59 : @Eq ((⟨Cert.KernelIdeal.S131072, .i32⟩ : BufTy).Contents (Elt F)) (Φ₁ (Proc.devRef .tc Cert.KernelIdeal.main_call86_v1)) (Φ₂ (Proc.devRef .tc Cert.ReferenceIdeal.main_call86_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 13) rfl) :) e58
  have e60 : @Eq ((⟨Cert.KernelIdeal.S131072, .i32⟩ : BufTy).Contents (Elt F)) (Φ₁ (Proc.devRef .tc Cert.KernelIdeal.main_call86_v2)) (Φ₂ (Proc.devRef .tc Cert.ReferenceIdeal.main_call86_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 14) rfl) :) e59 e55
  have e61 : @Eq ((⟨Cert.KernelIdeal.S_, .i32⟩ : BufTy).Contents (Elt F)) (Φ₁ (Proc.devRef .tc Cert.KernelIdeal.main_call86_v3)) (Φ₂ (Proc.devRef .tc Cert.ReferenceIdeal.main_call86_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 15) rfl) :) e57
  have e62 : @Eq ((⟨Cert.KernelIdeal.S131072, .i32⟩ : BufTy).Contents (Elt F)) (Φ₁ (Proc.devRef .tc Cert.KernelIdeal.main_call86_v4)) (Φ₂ (Proc.devRef .tc Cert.ReferenceIdeal.main_call86_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 16) rfl) :) e61
  have e63 : @Eq ((⟨Cert.KernelIdeal.S131072, .i32⟩ : BufTy).Contents (Elt F)) (Φ₁ (Proc.devRef .tc Cert.KernelIdeal.main_v2751)) (Φ₂ (Proc.devRef .tc Cert.ReferenceIdeal.main_v2768)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 17) rfl) :) e62 e60
  have e64 : @Eq ((⟨Cert.KernelIdeal.S_, .i32⟩ : BufTy).Contents (Elt F)) (Φ₁ (Proc.devRef .tc Cert.KernelIdeal.main_c_837)) (Φ₂ (Proc.devRef .tc Cert.ReferenceIdeal.main_c_837)) := step0 (β := ((⟨Cert.KernelIdeal.S_, .i32⟩ : BufTy).Contents (Elt F))) (eq0 (at_ fa6 (i := 0) rfl) :) (eq0 (at_ fb1 (i := 18) rfl) :)
  have e65 : @Eq ((⟨Cert.KernelIdeal.S131072, .i32⟩ : BufTy).Contents (Elt F)) (Φ₁ (Proc.devRef .tc Cert.KernelIdeal.main_v2752)) (Φ₂ (Proc.devRef .tc Cert.ReferenceIdeal.main_v2769)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 19) rfl) :) e64
  have e66 : @Eq ((⟨Cert.KernelIdeal.S131072, .i32⟩ : BufTy).Contents (Elt F)) (Φ₁ (Proc.devRef .tc Cert.KernelIdeal.main_v2753)) (Φ₂ (Proc.devRef .tc Cert.ReferenceIdeal.main_v2770)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 20) rfl) :) e63 e65
  have e67 : @Eq ((⟨Cert.KernelIdeal.S_, .i32⟩ : BufTy).Contents (Elt F)) (Φ₁ (Proc.devRef .tc Cert.KernelIdeal.main_c_838)) (Φ₂ (Proc.devRef .tc Cert.ReferenceIdeal.main_c_838)) := step0 (β := ((⟨Cert.KernelIdeal.S_, .i32⟩ : BufTy).Contents (Elt F))) (eq0 (at_ fa6 (i := 3) rfl) :) (eq0 (at_ fb1 (i := 21) rfl) :)
  have e68 : @Eq ((⟨Cert.KernelIdeal.S_, .i32⟩ : BufTy).Contents (Elt F)) (Φ₁ (Proc.devRef .tc Cert.KernelIdeal.main_c_839)) (Φ₂ (Proc.devRef .tc Cert.ReferenceIdeal.main_c_839)) := step0 (β := ((⟨Cert.KernelIdeal.S_, .i32⟩ : BufTy).Contents (Elt F))) (eq0 (at_ fa6 (i := 4) rfl) :) (eq0 (at_ fb1 (i := 22) rfl) :)
  have e69 : @Eq ((⟨Cert.KernelIdeal.S_, .i32⟩ : BufTy).Contents (Elt F)) (Φ₁ (Proc.devRef .tc Cert.KernelIdeal.main_call87_v0)) (Φ₂ (Proc.devRef .tc Cert.ReferenceIdeal.main_call87_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 23) rfl) :) e67
  have e70 : @Eq ((⟨Cert.KernelIdeal.S131072, .i32⟩ : BufTy).Contents (Elt F)) (Φ₁ (Proc.devRef .tc Cert.KernelIdeal.main_call87_v1)) (Φ₂ (Proc.devRef .tc Cert.ReferenceIdeal.main_call87_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 24) rfl) :) e69
  have e71 : @Eq ((⟨Cert.KernelIdeal.S131072, .i32⟩ : BufTy).Contents (Elt F)) (Φ₁ (Proc.devRef .tc Cert.KernelIdeal.main_call87_v2)) (Φ₂ (Proc.devRef .tc Cert.ReferenceIdeal.main_call87_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 25) rfl) :) e70 e66
  have e72 : @Eq ((⟨Cert.KernelIdeal.S_, .i32⟩ : BufTy).Contents (Elt F)) (Φ₁ (Proc.devRef .tc Cert.KernelIdeal.main_call87_v3)) (Φ₂ (Proc.devRef .tc Cert.ReferenceIdeal.main_call87_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 26) rfl) :) e68
  have e73 : @Eq ((⟨Cert.KernelIdeal.S131072, .i32⟩ : BufTy).Contents (Elt F)) (Φ₁ (Proc.devRef .tc Cert.KernelIdeal.main_call87_v4)) (Φ₂ (Proc.devRef .tc Cert.ReferenceIdeal.main_call87_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 27) rfl) :) e72
  have e74 : @Eq ((⟨Cert.KernelIdeal.S131072, .i32⟩ : BufTy).Contents (Elt F)) (Φ₁ (Proc.devRef .tc Cert.KernelIdeal.main_v2754)) (Φ₂ (Proc.devRef .tc Cert.ReferenceIdeal.main_v2771)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 28) rfl) :) e73 e71
  have e75 : @Eq ((⟨Cert.KernelIdeal.S_, .i32⟩ : BufTy).Contents (Elt F)) (Φ₁ (Proc.devRef .tc Cert.KernelIdeal.main_c_840)) (Φ₂ (Proc.devRef .tc Cert.ReferenceIdeal.main_c_840)) := step0 (β := ((⟨Cert.KernelIdeal.S_, .i32⟩ : BufTy).Contents (Elt F))) (eq0 (at_ fa8 (i := 0) rfl) :) (eq0 (at_ fb1 (i := 29) rfl) :)
  have e76 : @Eq ((⟨Cert.KernelIdeal.S131072, .i32⟩ : BufTy).Contents (Elt F)) (Φ₁ (Proc.devRef .tc Cert.KernelIdeal.main_v2755)) (Φ₂ (Proc.devRef .tc Cert.ReferenceIdeal.main_v2772)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 30) rfl) :) e75
  have e77 : @Eq ((⟨Cert.KernelIdeal.S131072, .i1⟩ : BufTy).Contents (Elt F)) (Φ₁ (Proc.devRef .tc Cert.KernelIdeal.main_v2756)) (Φ₂ (Proc.devRef .tc Cert.ReferenceIdeal.main_v2773)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 31) rfl) :) e63 e76
  have e78 : @Eq ((⟨Cert.KernelIdeal.S_, .i32⟩ : BufTy).Contents (Elt F)) (Φ₁ (Proc.devRef .tc Cert.KernelIdeal.main_c_841)) (Φ₂ (Proc.devRef .tc Cert.ReferenceIdeal.main_c_841)) := step0 (β := ((⟨Cert.KernelIdeal.S_, .i32⟩ : BufTy).Contents (Elt F))) (eq0 (at_ fa8 (i := 3) rfl) :) (eq0 (at_ fb1 (i := 32) rfl) :)
  have e79 : @Eq ((⟨Cert.KernelIdeal.S131072, .i32⟩ : BufTy).Contents (Elt F)) (Φ₁ (Proc.devRef .tc Cert.KernelIdeal.main_v2757)) (Φ₂ (Proc.devRef .tc Cert.ReferenceIdeal.main_v2774)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 33) rfl) :) e78
  have e80 : @Eq ((⟨Cert.KernelIdeal.S131072, .i32⟩ : BufTy).Contents (Elt F)) (Φ₁ (Proc.devRef .tc Cert.KernelIdeal.main_v2758)) (Φ₂ (Proc.devRef .tc Cert.ReferenceIdeal.main_v2775)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 34) rfl) :) e63 e79
  have e81 : @Eq ((⟨Cert.KernelIdeal.S131072, .i32⟩ : BufTy).Contents (Elt F)) (Φ₁ (Proc.devRef .tc Cert.KernelIdeal.main_v2759)) (Φ₂ (Proc.devRef .tc Cert.ReferenceIdeal.main_v2776)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 35) rfl) :) e77 e80 e63
  have e82 : @Eq ((⟨Cert.KernelIdeal.S_, .i32⟩ : BufTy).Contents (Elt F)) (Φ₁ (Proc.devRef .tc Cert.KernelIdeal.main_c_842)) (Φ₂ (Proc.devRef .tc Cert.ReferenceIdeal.main_c_842)) := step0 (β := ((⟨Cert.KernelIdeal.S_, .i32⟩ : BufTy).Contents (Elt F))) (eq0 (at_ fa8 (i := 7) rfl) :) (eq0 (at_ fb1 (i := 36) rfl) :)
  have e83 : @Eq ((⟨Cert.KernelIdeal.S131072, .i32⟩ : BufTy).Contents (Elt F)) (Φ₁ (Proc.devRef .tc Cert.KernelIdeal.main_v2760)) (Φ₂ (Proc.devRef .tc Cert.ReferenceIdeal.main_v2777)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 37) rfl) :) e82
  have e84 : @Eq ((⟨Cert.KernelIdeal.S131072, .i1⟩ : BufTy).Contents (Elt F)) (Φ₁ (Proc.devRef .tc Cert.KernelIdeal.main_v2761)) (Φ₂ (Proc.devRef .tc Cert.ReferenceIdeal.main_v2778)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 38) rfl) :) e43 e83
  have e85 : @Eq ((⟨Cert.KernelIdeal.S_, .i32⟩ : BufTy).Contents (Elt F)) (Φ₁ (Proc.devRef .tc Cert.KernelIdeal.main_c_843)) (Φ₂ (Proc.devRef .tc Cert.ReferenceIdeal.main_c_843)) := step0 (β := ((⟨Cert.KernelIdeal.S_, .i32⟩ : BufTy).Contents (Elt F))) (eq0 (at_ fa8 (i := 10) rfl) :) (eq0 (at_ fb1 (i := 39) rfl) :)
  have e86 : @Eq ((⟨Cert.KernelIdeal.S131072, .i32⟩ : BufTy).Contents (Elt F)) (Φ₁ (Proc.devRef .tc Cert.KernelIdeal.main_v2762)) (Φ₂ (Proc.devRef .tc Cert.ReferenceIdeal.main_v2779)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 40) rfl) :) e85
  have e87 : @Eq ((⟨Cert.KernelIdeal.S131072, .i32⟩ : BufTy).Contents (Elt F)) (Φ₁ (Proc.devRef .tc Cert.KernelIdeal.main_v2763)) (Φ₂ (Proc.devRef .tc Cert.ReferenceIdeal.main_v2780)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 41) rfl) :) e43 e86
  have e88 : @Eq ((⟨Cert.KernelIdeal.S131072, .i32⟩ : BufTy).Contents (Elt F)) (Φ₁ (Proc.devRef .tc Cert.KernelIdeal.main_v2764)) (Φ₂ (Proc.devRef .tc Cert.ReferenceIdeal.main_v2781)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 42) rfl) :) e84 e87 e43
  have e89 : @Eq ((⟨Cert.KernelIdeal.S131072x1, .i32⟩ : BufTy).Contents (Elt F)) (Φ₁ (Proc.devRef .tc Cert.KernelIdeal.main_v2765)) (Φ₂ (Proc.devRef .tc Cert.ReferenceIdeal.main_v2782)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 43) rfl) :) e81
  have e90 : @Eq ((⟨Cert.KernelIdeal.S131072x1, .i32⟩ : BufTy).Contents (Elt F)) (Φ₁ (Proc.devRef .tc Cert.KernelIdeal.main_v2766)) (Φ₂ (Proc.devRef .tc Cert.ReferenceIdeal.main_v2783)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 44) rfl) :) e88
  have e91 : @Eq ((⟨Cert.KernelIdeal.S131072x2, .i32⟩ : BufTy).Contents (Elt F)) (Φ₁ (Proc.devRef .tc Cert.KernelIdeal.main_v2767)) (Φ₂ (Proc.devRef .tc Cert.ReferenceIdeal.main_v2784)) := by rw [eq2 (at_ fa8 (i := 16) rfl), eq2 (at_ fb1 (i := 45) rfl), e89, e90] <;> rfl
  have e92 : @Eq ((⟨Cert.KernelIdeal.S32x131072, .f32⟩ : BufTy).Contents (Elt F)) (Φ₁ (Proc.devRef .tc Cert.KernelIdeal.main_v2768)) (Φ₂ (Proc.devRef .tc Cert.ReferenceIdeal.main_v2785)) := by rw [eq2 (at_ fa8 (i := 17) rfl), eq2 (at_ fb1 (i := 46) rfl), x2, e91] <;> rfl
  have e93 : @Eq ((⟨Cert.KernelIdeal.S_, .i32⟩ : BufTy).Contents (Elt F)) (Φ₁ (Proc.devRef .tc Cert.KernelIdeal.main_c_844)) (Φ₂ (Proc.devRef .tc Cert.ReferenceIdeal.main_c_844)) := step0 (β := ((⟨Cert.KernelIdeal.S_, .i32⟩ : BufTy).Contents (Elt F))) (eq0 (at_ fa8 (i := 18) rfl) :) (eq0 (at_ fb1 (i := 47) rfl) :)
  have e94 : @Eq ((⟨Cert.KernelIdeal.S131072, .i32⟩ : BufTy).Contents (Elt F)) (Φ₁ (Proc.devRef .tc Cert.KernelIdeal.main_v2769)) (Φ₂ (Proc.devRef .tc Cert.ReferenceIdeal.main_v2786)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 48) rfl) :) e93
  have e95 : @Eq ((⟨Cert.KernelIdeal.S131072, .i1⟩ : BufTy).Contents (Elt F)) (Φ₁ (Proc.devRef .tc Cert.KernelIdeal.main_v2770)) (Φ₂ (Proc.devRef .tc Cert.ReferenceIdeal.main_v2787)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 49) rfl) :) e63 e94
  have e96 : @Eq ((⟨Cert.KernelIdeal.S_, .i32⟩ : BufTy).Contents (Elt F)) (Φ₁ (Proc.devRef .tc Cert.KernelIdeal.main_c_845)) (Φ₂ (Proc.devRef .tc Cert.ReferenceIdeal.main_c_845)) := step0 (β := ((⟨Cert.KernelIdeal.S_, .i32⟩ : BufTy).Contents (Elt F))) (eq0 (at_ fa8 (i := 21) rfl) :) (eq0 (at_ fb1 (i := 50) rfl) :)
  have e97 : @Eq ((⟨Cert.KernelIdeal.S131072, .i32⟩ : BufTy).Contents (Elt F)) (Φ₁ (Proc.devRef .tc Cert.KernelIdeal.main_v2771)) (Φ₂ (Proc.devRef .tc Cert.ReferenceIdeal.main_v2788)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 51) rfl) :) e96
  have e98 : @Eq ((⟨Cert.KernelIdeal.S131072, .i32⟩ : BufTy).Contents (Elt F)) (Φ₁ (Proc.devRef .tc Cert.KernelIdeal.main_v2772)) (Φ₂ (Proc.devRef .tc Cert.ReferenceIdeal.main_v2789)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 52) rfl) :) e63 e97
  have e99 : @Eq ((⟨Cert.KernelIdeal.S131072, .i32⟩ : BufTy).Contents (Elt F)) (Φ₁ (Proc.devRef .tc Cert.KernelIdeal.main_v2773)) (Φ₂ (Proc.devRef .tc Cert.ReferenceIdeal.main_v2790)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 53) rfl) :) e95 e98 e63
  have e100 : @Eq ((⟨Cert.KernelIdeal.S_, .i32⟩ : BufTy).Contents (Elt F)) (Φ₁ (Proc.devRef .tc Cert.KernelIdeal.main_c_846)) (Φ₂ (Proc.devRef .tc Cert.ReferenceIdeal.main_c_846)) := step0 (β := ((⟨Cert.KernelIdeal.S_, .i32⟩ : BufTy).Contents (Elt F))) (eq0 (at_ fa8 (i := 25) rfl) :) (eq0 (at_ fb1 (i := 54) rfl) :)
  have e101 : @Eq ((⟨Cert.KernelIdeal.S131072, .i32⟩ : BufTy).Contents (Elt F)) (Φ₁ (Proc.devRef .tc Cert.KernelIdeal.main_v2774)) (Φ₂ (Proc.devRef .tc Cert.ReferenceIdeal.main_v2791)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 55) rfl) :) e100
  have e102 : @Eq ((⟨Cert.KernelIdeal.S131072, .i1⟩ : BufTy).Contents (Elt F)) (Φ₁ (Proc.devRef .tc Cert.KernelIdeal.main_v2775)) (Φ₂ (Proc.devRef .tc Cert.ReferenceIdeal.main_v2792)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 56) rfl) :) e54 e101
  have e103 : @Eq ((⟨Cert.KernelIdeal.S_, .i32⟩ : BufTy).Contents (Elt F)) (Φ₁ (Proc.devRef .tc Cert.KernelIdeal.main_c_847)) (Φ₂ (Proc.devRef .tc Cert.ReferenceIdeal.main_c_847)) := step0 (β := ((⟨Cert.KernelIdeal.S_, .i32⟩ : BufTy).Contents (Elt F))) (eq0 (at_ fa8 (i := 28) rfl) :) (eq0 (at_ fb1 (i := 57) rfl) :)
  have e104 : @Eq ((⟨Cert.KernelIdeal.S131072, .i32⟩ : BufTy).Contents (Elt F)) (Φ₁ (Proc.devRef .tc Cert.KernelIdeal.main_v2776)) (Φ₂ (Proc.devRef .tc Cert.ReferenceIdeal.main_v2793)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 58) rfl) :) e103
  have e105 : @Eq ((⟨Cert.KernelIdeal.S131072, .i32⟩ : BufTy).Contents (Elt F)) (Φ₁ (Proc.devRef .tc Cert.KernelIdeal.main_v2777)) (Φ₂ (Proc.devRef .tc Cert.ReferenceIdeal.main_v2794)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 59) rfl) :) e54 e104
  have e106 : @Eq ((⟨Cert.KernelIdeal.S131072, .i32⟩ : BufTy).Contents (Elt F)) (Φ₁ (Proc.devRef .tc Cert.KernelIdeal.main_v2778)) (Φ₂ (Proc.devRef .tc Cert.ReferenceIdeal.main_v2795)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 60) rfl) :) e102 e105 e54
  have e107 : @Eq ((⟨Cert.KernelIdeal.S131072x1, .i32⟩ : BufTy).Contents (Elt F)) (Φ₁ (Proc.devRef .tc Cert.KernelIdeal.main_v2779)) (Φ₂ (Proc.devRef .tc Cert.ReferenceIdeal.main_v2796)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 61) rfl) :) e99
  have e108 : @Eq ((⟨Cert.KernelIdeal.S131072x1, .i32⟩ : BufTy).Contents (Elt F)) (Φ₁ (Proc.devRef .tc Cert.KernelIdeal.main_v2780)) (Φ₂ (Proc.devRef .tc Cert.ReferenceIdeal.main_v2797)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 62) rfl) :) e106
  have e109 : @Eq ((⟨Cert.KernelIdeal.S131072x2, .i32⟩ : BufTy).Contents (Elt F)) (Φ₁ (Proc.devRef .tc Cert.KernelIdeal.main_v2781)) (Φ₂ (Proc.devRef .tc Cert.ReferenceIdeal.main_v2798)) := by rw [eq2 (at_ fa8 (i := 34) rfl), eq2 (at_ fb1 (i := 63) rfl), e107, e108] <;> rfl
  have e110 : @Eq ((⟨Cert.KernelIdeal.S32x131072, .f32⟩ : BufTy).Contents (Elt F)) (Φ₁ (Proc.devRef .tc Cert.KernelIdeal.main_v2782)) (Φ₂ (Proc.devRef .tc Cert.ReferenceIdeal.main_v2799)) := by rw [eq2 (at_ fa8 (i := 35) rfl), eq2 (at_ fb1 (i := 64) rfl), x2, e109] <;> rfl
  have e111 : @Eq ((⟨Cert.KernelIdeal.S_, .i32⟩ : BufTy).Contents (Elt F)) (Φ₁ (Proc.devRef .tc Cert.KernelIdeal.main_c_848)) (Φ₂ (Proc.devRef .tc Cert.ReferenceIdeal.main_c_848)) := step0 (β := ((⟨Cert.KernelIdeal.S_, .i32⟩ : BufTy).Contents (Elt F))) (eq0 (at_ fa8 (i := 36) rfl) :) (eq0 (at_ fb1 (i := 65) rfl) :)
  have e112 : @Eq ((⟨Cert.KernelIdeal.S131072, .i32⟩ : BufTy).Contents (Elt F)) (Φ₁ (Proc.devRef .tc Cert.KernelIdeal.main_v2783)) (Φ₂ (Proc.devRef .tc Cert.ReferenceIdeal.main_v2800)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 66) rfl) :) e111
  have e113 : @Eq ((⟨Cert.KernelIdeal.S131072, .i1⟩ : BufTy).Contents (Elt F)) (Φ₁ (Proc.devRef .tc Cert.KernelIdeal.main_v2784)) (Φ₂ (Proc.devRef .tc Cert.ReferenceIdeal.main_v2801)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 67) rfl) :) e74 e112
  have e114 : @Eq ((⟨Cert.KernelIdeal.S_, .i32⟩ : BufTy).Contents (Elt F)) (Φ₁ (Proc.devRef .tc Cert.KernelIdeal.main_c_849)) (Φ₂ (Proc.devRef .tc Cert.ReferenceIdeal.main_c_849)) := step0 (β := ((⟨Cert.KernelIdeal.S_, .i32⟩ : BufTy).Contents (Elt F))) (eq0 (at_ fa8 (i := 39) rfl) :) (eq0 (at_ fb1 (i := 68) rfl) :)
  have e115 : @Eq ((⟨Cert.KernelIdeal.S131072, .i32⟩ : BufTy).Contents (Elt F)) (Φ₁ (Proc.devRef .tc Cert.KernelIdeal.main_v2785)) (Φ₂ (Proc.devRef .tc Cert.ReferenceIdeal.main_v2802)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 69) rfl) :) e114
  have e116 : @Eq ((⟨Cert.KernelIdeal.S131072, .i32⟩ : BufTy).Contents (Elt F)) (Φ₁ (Proc.devRef .tc Cert.KernelIdeal.main_v2786)) (Φ₂ (Proc.devRef .tc Cert.ReferenceIdeal.main_v2803)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 70) rfl) :) e74 e115
  have e117 : @Eq ((⟨Cert.KernelIdeal.S131072, .i32⟩ : BufTy).Contents (Elt F)) (Φ₁ (Proc.devRef .tc Cert.KernelIdeal.main_v2787)) (Φ₂ (Proc.devRef .tc Cert.ReferenceIdeal.main_v2804)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 71) rfl) :) e113 e116 e74
  have e118 : @Eq ((⟨Cert.KernelIdeal.S_, .i32⟩ : BufTy).Contents (Elt F)) (Φ₁ (Proc.devRef .tc Cert.KernelIdeal.main_c_850)) (Φ₂ (Proc.devRef .tc Cert.ReferenceIdeal.main_c_850)) := step0 (β := ((⟨Cert.KernelIdeal.S_, .i32⟩ : BufTy).Contents (Elt F))) (eq0 (at_ fa8 (i := 43) rfl) :) (eq0 (at_ fb1 (i := 72) rfl) :)
  have e119 : @Eq ((⟨Cert.KernelIdeal.S131072, .i32⟩ : BufTy).Contents (Elt F)) (Φ₁ (Proc.devRef .tc Cert.KernelIdeal.main_v2788)) (Φ₂ (Proc.devRef .tc Cert.ReferenceIdeal.main_v2805)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 73) rfl) :) e118
  have e120 : @Eq ((⟨Cert.KernelIdeal.S131072, .i1⟩ : BufTy).Contents (Elt F)) (Φ₁ (Proc.devRef .tc Cert.KernelIdeal.main_v2789)) (Φ₂ (Proc.devRef .tc Cert.ReferenceIdeal.main_v2806)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb1 (i := 74) rfl) :) e43 e119
  have e121 : @Eq ((⟨Cert.KernelIdeal.S_, .i32⟩ : BufTy).Contents (Elt F)) (Φ₁ (Proc.devRef .tc Cert.KernelIdeal.main_c_851)) (Φ₂ (Proc.devRef .tc Cert.ReferenceIdeal.main_c_851)) := step0 (β := ((⟨Cert.KernelIdeal.S_, .i32⟩ : BufTy).Contents (Elt F))) (eq0 (at_ fa8 (i := 46) rfl) :) (eq0 (at_ fb2 (i := 0) rfl) :)
  have e122 : @Eq ((⟨Cert.KernelIdeal.S131072, .i32⟩ : BufTy).Contents (Elt F)) (Φ₁ (Proc.devRef .tc Cert.KernelIdeal.main_v2790)) (Φ₂ (Proc.devRef .tc Cert.ReferenceIdeal.main_v2807)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 1) rfl) :) e121
  have e123 : @Eq ((⟨Cert.KernelIdeal.S131072, .i32⟩ : BufTy).Contents (Elt F)) (Φ₁ (Proc.devRef .tc Cert.KernelIdeal.main_v2791)) (Φ₂ (Proc.devRef .tc Cert.ReferenceIdeal.main_v2808)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 2) rfl) :) e43 e122
  have e124 : @Eq ((⟨Cert.KernelIdeal.S131072, .i32⟩ : BufTy).Contents (Elt F)) (Φ₁ (Proc.devRef .tc Cert.KernelIdeal.main_v2792)) (Φ₂ (Proc.devRef .tc Cert.ReferenceIdeal.main_v2809)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 3) rfl) :) e120 e123 e43
  have e125 : @Eq ((⟨Cert.KernelIdeal.S131072x1, .i32⟩ : BufTy).Contents (Elt F)) (Φ₁ (Proc.devRef .tc Cert.KernelIdeal.main_v2793)) (Φ₂ (Proc.devRef .tc Cert.ReferenceIdeal.main_v2810)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 4) rfl) :) e117
  have e126 : @Eq ((⟨Cert.KernelIdeal.S131072x1, .i32⟩ : BufTy).Contents (Elt F)) (Φ₁ (Proc.devRef .tc Cert.KernelIdeal.main_v2794)) (Φ₂ (Proc.devRef .tc Cert.ReferenceIdeal.main_v2811)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 5) rfl) :) e124
  have e127 : @Eq ((⟨Cert.KernelIdeal.S131072x2, .i32⟩ : BufTy).Contents (Elt F)) (Φ₁ (Proc.devRef .tc Cert.KernelIdeal.main_v2795)) (Φ₂ (Proc.devRef .tc Cert.ReferenceIdeal.main_v2812)) := by rw [eq2 (at_ fa8 (i := 52) rfl), eq2 (at_ fb2 (i := 6) rfl), e125, e126] <;> rfl
  have e128 : @Eq ((⟨Cert.KernelIdeal.S32x131072, .f32⟩ : BufTy).Contents (Elt F)) (Φ₁ (Proc.devRef .tc Cert.KernelIdeal.main_v2796)) (Φ₂ (Proc.devRef .tc Cert.ReferenceIdeal.main_v2813)) := by rw [eq2 (at_ fa8 (i := 53) rfl), eq2 (at_ fb2 (i := 7) rfl), x2, e127] <;> rfl
  have e129 : @Eq ((⟨Cert.KernelIdeal.S_, .i32⟩ : BufTy).Contents (Elt F)) (Φ₁ (Proc.devRef .tc Cert.KernelIdeal.main_c_852)) (Φ₂ (Proc.devRef .tc Cert.ReferenceIdeal.main_c_852)) := step0 (β := ((⟨Cert.KernelIdeal.S_, .i32⟩ : BufTy).Contents (Elt F))) (eq0 (at_ fa8 (i := 54) rfl) :) (eq0 (at_ fb2 (i := 8) rfl) :)
  have e130 : @Eq ((⟨Cert.KernelIdeal.S131072, .i32⟩ : BufTy).Contents (Elt F)) (Φ₁ (Proc.devRef .tc Cert.KernelIdeal.main_v2797)) (Φ₂ (Proc.devRef .tc Cert.ReferenceIdeal.main_v2814)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 9) rfl) :) e129
  have e131 : @Eq ((⟨Cert.KernelIdeal.S131072, .i1⟩ : BufTy).Contents (Elt F)) (Φ₁ (Proc.devRef .tc Cert.KernelIdeal.main_v2798)) (Φ₂ (Proc.devRef .tc Cert.ReferenceIdeal.main_v2815)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 10) rfl) :) e74 e130
  have e132 : @Eq ((⟨Cert.KernelIdeal.S_, .i32⟩ : BufTy).Contents (Elt F)) (Φ₁ (Proc.devRef .tc Cert.KernelIdeal.main_c_853)) (Φ₂ (Proc.devRef .tc Cert.ReferenceIdeal.main_c_853)) := step0 (β := ((⟨Cert.KernelIdeal.S_, .i32⟩ : BufTy).Contents (Elt F))) (eq0 (at_ fa8 (i := 57) rfl) :) (eq0 (at_ fb2 (i := 11) rfl) :)
  have e133 : @Eq ((⟨Cert.KernelIdeal.S131072, .i32⟩ : BufTy).Contents (Elt F)) (Φ₁ (Proc.devRef .tc Cert.KernelIdeal.main_v2799)) (Φ₂ (Proc.devRef .tc Cert.ReferenceIdeal.main_v2816)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 12) rfl) :) e132
  have e134 : @Eq ((⟨Cert.KernelIdeal.S131072, .i32⟩ : BufTy).Contents (Elt F)) (Φ₁ (Proc.devRef .tc Cert.KernelIdeal.main_v2800)) (Φ₂ (Proc.devRef .tc Cert.ReferenceIdeal.main_v2817)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 13) rfl) :) e74 e133
  have e135 : @Eq ((⟨Cert.KernelIdeal.S131072, .i32⟩ : BufTy).Contents (Elt F)) (Φ₁ (Proc.devRef .tc Cert.KernelIdeal.main_v2801)) (Φ₂ (Proc.devRef .tc Cert.ReferenceIdeal.main_v2818)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 14) rfl) :) e131 e134 e74
  have e136 : @Eq ((⟨Cert.KernelIdeal.S_, .i32⟩ : BufTy).Contents (Elt F)) (Φ₁ (Proc.devRef .tc Cert.KernelIdeal.main_c_854)) (Φ₂ (Proc.devRef .tc Cert.ReferenceIdeal.main_c_854)) := step0 (β := ((⟨Cert.KernelIdeal.S_, .i32⟩ : BufTy).Contents (Elt F))) (eq0 (at_ fa8 (i := 61) rfl) :) (eq0 (at_ fb2 (i := 15) rfl) :)
  have e137 : @Eq ((⟨Cert.KernelIdeal.S131072, .i32⟩ : BufTy).Contents (Elt F)) (Φ₁ (Proc.devRef .tc Cert.KernelIdeal.main_v2802)) (Φ₂ (Proc.devRef .tc Cert.ReferenceIdeal.main_v2819)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 16) rfl) :) e136
  have e138 : @Eq ((⟨Cert.KernelIdeal.S131072, .i1⟩ : BufTy).Contents (Elt F)) (Φ₁ (Proc.devRef .tc Cert.KernelIdeal.main_v2803)) (Φ₂ (Proc.devRef .tc Cert.ReferenceIdeal.main_v2820)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 17) rfl) :) e54 e137
  have e139 : @Eq ((⟨Cert.KernelIdeal.S_, .i32⟩ : BufTy).Contents (Elt F)) (Φ₁ (Proc.devRef .tc Cert.KernelIdeal.main_c_855)) (Φ₂ (Proc.devRef .tc Cert.ReferenceIdeal.main_c_855)) := step0 (β := ((⟨Cert.KernelIdeal.S_, .i32⟩ : BufTy).Contents (Elt F))) (eq0 (at_ fa8 (i := 64) rfl) :) (eq0 (at_ fb2 (i := 18) rfl) :)
  have e140 : @Eq ((⟨Cert.KernelIdeal.S131072, .i32⟩ : BufTy).Contents (Elt F)) (Φ₁ (Proc.devRef .tc Cert.KernelIdeal.main_v2804)) (Φ₂ (Proc.devRef .tc Cert.ReferenceIdeal.main_v2821)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 19) rfl) :) e139
  have e141 : @Eq ((⟨Cert.KernelIdeal.S131072, .i32⟩ : BufTy).Contents (Elt F)) (Φ₁ (Proc.devRef .tc Cert.KernelIdeal.main_v2805)) (Φ₂ (Proc.devRef .tc Cert.ReferenceIdeal.main_v2822)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 20) rfl) :) e54 e140
  have e142 : @Eq ((⟨Cert.KernelIdeal.S131072, .i32⟩ : BufTy).Contents (Elt F)) (Φ₁ (Proc.devRef .tc Cert.KernelIdeal.main_v2806)) (Φ₂ (Proc.devRef .tc Cert.ReferenceIdeal.main_v2823)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 21) rfl) :) e138 e141 e54
  have e143 : @Eq ((⟨Cert.KernelIdeal.S131072x1, .i32⟩ : BufTy).Contents (Elt F)) (Φ₁ (Proc.devRef .tc Cert.KernelIdeal.main_v2807)) (Φ₂ (Proc.devRef .tc Cert.ReferenceIdeal.main_v2824)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 22) rfl) :) e135
  have e144 : @Eq ((⟨Cert.KernelIdeal.S131072x1, .i32⟩ : BufTy).Contents (Elt F)) (Φ₁ (Proc.devRef .tc Cert.KernelIdeal.main_v2808)) (Φ₂ (Proc.devRef .tc Cert.ReferenceIdeal.main_v2825)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 23) rfl) :) e142
  have e145 : @Eq ((⟨Cert.KernelIdeal.S131072x2, .i32⟩ : BufTy).Contents (Elt F)) (Φ₁ (Proc.devRef .tc Cert.KernelIdeal.main_v2809)) (Φ₂ (Proc.devRef .tc Cert.ReferenceIdeal.main_v2826)) := by rw [eq2 (at_ fa8 (i := 70) rfl), eq2 (at_ fb2 (i := 24) rfl), e143, e144] <;> rfl
  have e146 : @Eq ((⟨Cert.KernelIdeal.S32x131072, .f32⟩ : BufTy).Contents (Elt F)) (Φ₁ (Proc.devRef .tc Cert.KernelIdeal.main_v2810)) (Φ₂ (Proc.devRef .tc Cert.ReferenceIdeal.main_v2827)) := by rw [eq2 (at_ fa8 (i := 71) rfl), eq2 (at_ fb2 (i := 25) rfl), x2, e145] <;> rfl
  have e147 : @Eq ((⟨Cert.KernelIdeal.S_, .f32⟩ : BufTy).Contents (Elt F)) (Φ₁ (Proc.devRef .tc Cert.KernelIdeal.main_cst_856)) (Φ₂ (Proc.devRef .tc Cert.ReferenceIdeal.main_cst_856)) := step0 (β := ((⟨Cert.KernelIdeal.S_, .f32⟩ : BufTy).Contents (Elt F))) (eq0 (at_ fa8 (i := 72) rfl) :) (eq0 (at_ fb2 (i := 26) rfl) :)
  have e148 : @Eq ((⟨Cert.KernelIdeal.S131072, .f32⟩ : BufTy).Contents (Elt F)) (Φ₁ (Proc.devRef .tc Cert.KernelIdeal.main_v2811)) (Φ₂ (Proc.devRef .tc Cert.ReferenceIdeal.main_v2828)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 27) rfl) :) e147
  have e149 : @Eq ((⟨Cert.KernelIdeal.S131072, .f32⟩ : BufTy).Contents (Elt F)) (Φ₁ (Proc.devRef .tc Cert.KernelIdeal.main_v2812)) (Φ₂ (Proc.devRef .tc Cert.ReferenceIdeal.main_v2829)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 28) rfl) :) e148 e33
  have e150 : @Eq ((⟨Cert.KernelIdeal.S1x131072, .f32⟩ : BufTy).Contents (Elt F)) (Φ₁ (Proc.devRef .tc Cert.KernelIdeal.main_v2813)) (Φ₂ (Proc.devRef .tc Cert.ReferenceIdeal.main_v2830)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 29) rfl) :) e149
  have e151 : @Eq ((⟨Cert.KernelIdeal.S32x131072, .f32⟩ : BufTy).Contents (Elt F)) (Φ₁ (Proc.devRef .tc Cert.KernelIdeal.main_v2814)) (Φ₂ (Proc.devRef .tc Cert.ReferenceIdeal.main_v2831)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 30) rfl) :) e150
  have e152 : @Eq ((⟨Cert.KernelIdeal.S32x131072, .f32⟩ : BufTy).Contents (Elt F)) (Φ₁ (Proc.devRef .tc Cert.KernelIdeal.main_v2815)) (Φ₂ (Proc.devRef .tc Cert.ReferenceIdeal.main_v2832)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 31) rfl) :) e92 e151
  have e153 : @Eq ((⟨Cert.KernelIdeal.S_, .f32⟩ : BufTy).Contents (Elt F)) (Φ₁ (Proc.devRef .tc Cert.KernelIdeal.main_cst_857)) (Φ₂ (Proc.devRef .tc Cert.ReferenceIdeal.main_cst_857)) := step0 (β := ((⟨Cert.KernelIdeal.S_, .f32⟩ : BufTy).Contents (Elt F))) (eq0 (at_ fa8 (i := 78) rfl) :) (eq0 (at_ fb2 (i := 32) rfl) :)
  have e154 : @Eq ((⟨Cert.KernelIdeal.S131072, .f32⟩ : BufTy).Contents (Elt F)) (Φ₁ (Proc.devRef .tc Cert.KernelIdeal.main_v2816)) (Φ₂ (Proc.devRef .tc Cert.ReferenceIdeal.main_v2833)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 33) rfl) :) e153
  have e155 : @Eq ((⟨Cert.KernelIdeal.S131072, .f32⟩ : BufTy).Contents (Elt F)) (Φ₁ (Proc.devRef .tc Cert.KernelIdeal.main_v2817)) (Φ₂ (Proc.devRef .tc Cert.ReferenceIdeal.main_v2834)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 34) rfl) :) e154 e34
  have e156 : @Eq ((⟨Cert.KernelIdeal.S1x131072, .f32⟩ : BufTy).Contents (Elt F)) (Φ₁ (Proc.devRef .tc Cert.KernelIdeal.main_v2818)) (Φ₂ (Proc.devRef .tc Cert.ReferenceIdeal.main_v2835)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 35) rfl) :) e155
  have e157 : @Eq ((⟨Cert.KernelIdeal.S32x131072, .f32⟩ : BufTy).Contents (Elt F)) (Φ₁ (Proc.devRef .tc Cert.KernelIdeal.main_v2819)) (Φ₂ (Proc.devRef .tc Cert.ReferenceIdeal.main_v2836)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 36) rfl) :) e156
  have e158 : @Eq ((⟨Cert.KernelIdeal.S32x131072, .f32⟩ : BufTy).Contents (Elt F)) (Φ₁ (Proc.devRef .tc Cert.KernelIdeal.main_v2820)) (Φ₂ (Proc.devRef .tc Cert.ReferenceIdeal.main_v2837)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 37) rfl) :) e152 e157
  have e159 : @Eq ((⟨Cert.KernelIdeal.S1x131072, .f32⟩ : BufTy).Contents (Elt F)) (Φ₁ (Proc.devRef .tc Cert.KernelIdeal.main_v2821)) (Φ₂ (Proc.devRef .tc Cert.ReferenceIdeal.main_v2838)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 38) rfl) :) e33
  have e160 : @Eq ((⟨Cert.KernelIdeal.S32x131072, .f32⟩ : BufTy).Contents (Elt F)) (Φ₁ (Proc.devRef .tc Cert.KernelIdeal.main_v2822)) (Φ₂ (Proc.devRef .tc Cert.ReferenceIdeal.main_v2839)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 39) rfl) :) e159
  have e161 : @Eq ((⟨Cert.KernelIdeal.S32x131072, .f32⟩ : BufTy).Contents (Elt F)) (Φ₁ (Proc.devRef .tc Cert.KernelIdeal.main_v2823)) (Φ₂ (Proc.devRef .tc Cert.ReferenceIdeal.main_v2840)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 40) rfl) :) e110 e160
  have e162 : @Eq ((⟨Cert.KernelIdeal.S_, .f32⟩ : BufTy).Contents (Elt F)) (Φ₁ (Proc.devRef .tc Cert.KernelIdeal.main_cst_858)) (Φ₂ (Proc.devRef .tc Cert.ReferenceIdeal.main_cst_858)) := step0 (β := ((⟨Cert.KernelIdeal.S_, .f32⟩ : BufTy).Contents (Elt F))) (eq0 (at_ fa8 (i := 87) rfl) :) (eq0 (at_ fb2 (i := 41) rfl) :)
  have e163 : @Eq ((⟨Cert.KernelIdeal.S131072, .f32⟩ : BufTy).Contents (Elt F)) (Φ₁ (Proc.devRef .tc Cert.KernelIdeal.main_v2824)) (Φ₂ (Proc.devRef .tc Cert.ReferenceIdeal.main_v2841)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 42) rfl) :) e162
  have e164 : @Eq ((⟨Cert.KernelIdeal.S131072, .f32⟩ : BufTy).Contents (Elt F)) (Φ₁ (Proc.devRef .tc Cert.KernelIdeal.main_v2825)) (Φ₂ (Proc.devRef .tc Cert.ReferenceIdeal.main_v2842)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 43) rfl) :) e163 e34
  have e165 : @Eq ((⟨Cert.KernelIdeal.S1x131072, .f32⟩ : BufTy).Contents (Elt F)) (Φ₁ (Proc.devRef .tc Cert.KernelIdeal.main_v2826)) (Φ₂ (Proc.devRef .tc Cert.ReferenceIdeal.main_v2843)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 44) rfl) :) e164
  have e166 : @Eq ((⟨Cert.KernelIdeal.S32x131072, .f32⟩ : BufTy).Contents (Elt F)) (Φ₁ (Proc.devRef .tc Cert.KernelIdeal.main_v2827)) (Φ₂ (Proc.devRef .tc Cert.ReferenceIdeal.main_v2844)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 45) rfl) :) e165
  have e167 : @Eq ((⟨Cert.KernelIdeal.S32x131072, .f32⟩ : BufTy).Contents (Elt F)) (Φ₁ (Proc.devRef .tc Cert.KernelIdeal.main_v2828)) (Φ₂ (Proc.devRef .tc Cert.ReferenceIdeal.main_v2845)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 46) rfl) :) e161 e166
  have e168 : @Eq ((⟨Cert.KernelIdeal.S32x131072, .f32⟩ : BufTy).Contents (Elt F)) (Φ₁ (Proc.devRef .tc Cert.KernelIdeal.main_v2829)) (Φ₂ (Proc.devRef .tc Cert.ReferenceIdeal.main_v2846)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 47) rfl) :) e158 e167
  have e169 : @Eq ((⟨Cert.KernelIdeal.S_, .f32⟩ : BufTy).Contents (Elt F)) (Φ₁ (Proc.devRef .tc Cert.KernelIdeal.main_cst_859)) (Φ₂ (Proc.devRef .tc Cert.ReferenceIdeal.main_cst_859)) := step0 (β := ((⟨Cert.KernelIdeal.S_, .f32⟩ : BufTy).Contents (Elt F))) (eq0 (at_ fa8 (i := 94) rfl) :) (eq0 (at_ fb2 (i := 48) rfl) :)
  have e170 : @Eq ((⟨Cert.KernelIdeal.S131072, .f32⟩ : BufTy).Contents (Elt F)) (Φ₁ (Proc.devRef .tc Cert.KernelIdeal.main_v2830)) (Φ₂ (Proc.devRef .tc Cert.ReferenceIdeal.main_v2847)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 49) rfl) :) e169
  have e171 : @Eq ((⟨Cert.KernelIdeal.S131072, .f32⟩ : BufTy).Contents (Elt F)) (Φ₁ (Proc.devRef .tc Cert.KernelIdeal.main_v2831)) (Φ₂ (Proc.devRef .tc Cert.ReferenceIdeal.main_v2848)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 50) rfl) :) e170 e33
  have e172 : @Eq ((⟨Cert.KernelIdeal.S1x131072, .f32⟩ : BufTy).Contents (Elt F)) (Φ₁ (Proc.devRef .tc Cert.KernelIdeal.main_v2832)) (Φ₂ (Proc.devRef .tc Cert.ReferenceIdeal.main_v2849)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 51) rfl) :) e171
  have e173 : @Eq ((⟨Cert.KernelIdeal.S32x131072, .f32⟩ : BufTy).Contents (Elt F)) (Φ₁ (Proc.devRef .tc Cert.KernelIdeal.main_v2833)) (Φ₂ (Proc.devRef .tc Cert.ReferenceIdeal.main_v2850)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 52) rfl) :) e172
  have e174 : @Eq ((⟨Cert.KernelIdeal.S32x131072, .f32⟩ : BufTy).Contents (Elt F)) (Φ₁ (Proc.devRef .tc Cert.KernelIdeal.main_v2834)) (Φ₂ (Proc.devRef .tc Cert.ReferenceIdeal.main_v2851)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 53) rfl) :) e128 e173
  have e175 : @Eq ((⟨Cert.KernelIdeal.S1x131072, .f32⟩ : BufTy).Contents (Elt F)) (Φ₁ (Proc.devRef .tc Cert.KernelIdeal.main_v2835)) (Φ₂ (Proc.devRef .tc Cert.ReferenceIdeal.main_v2852)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 54) rfl) :) e34
  have e176 : @Eq ((⟨Cert.KernelIdeal.S32x131072, .f32⟩ : BufTy).Contents (Elt F)) (Φ₁ (Proc.devRef .tc Cert.KernelIdeal.main_v2836)) (Φ₂ (Proc.devRef .tc Cert.ReferenceIdeal.main_v2853)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 55) rfl) :) e175
  have e177 : @Eq ((⟨Cert.KernelIdeal.S32x131072, .f32⟩ : BufTy).Contents (Elt F)) (Φ₁ (Proc.devRef .tc Cert.KernelIdeal.main_v2837)) (Φ₂ (Proc.devRef .tc Cert.ReferenceIdeal.main_v2854)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 56) rfl) :) e174 e176
  have e178 : @Eq ((⟨Cert.KernelIdeal.S32x131072, .f32⟩ : BufTy).Contents (Elt F)) (Φ₁ (Proc.devRef .tc Cert.KernelIdeal.main_v2838)) (Φ₂ (Proc.devRef .tc Cert.ReferenceIdeal.main_v2855)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 57) rfl) :) e168 e177
  have e179 : @Eq ((⟨Cert.KernelIdeal.S1x131072, .f32⟩ : BufTy).Contents (Elt F)) (Φ₁ (Proc.devRef .tc Cert.KernelIdeal.main_v2839)) (Φ₂ (Proc.devRef .tc Cert.ReferenceIdeal.main_v2856)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 58) rfl) :) e33
  have e180 : @Eq ((⟨Cert.KernelIdeal.S32x131072, .f32⟩ : BufTy).Contents (Elt F)) (Φ₁ (Proc.devRef .tc Cert.KernelIdeal.main_v2840)) (Φ₂ (Proc.devRef .tc Cert.ReferenceIdeal.main_v2857)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb2 (i := 59) rfl) :) e179
  have e181 : @Eq ((⟨Cert.KernelIdeal.S32x131072, .f32⟩ : BufTy).Contents (Elt F)) (Φ₁ (Proc.devRef .tc Cert.KernelIdeal.main_v2841)) (Φ₂ (Proc.devRef .tc Cert.ReferenceIdeal.main_v2858)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 0) rfl) :) e146 e180
  have e182 : @Eq ((⟨Cert.KernelIdeal.S1x131072, .f32⟩ : BufTy).Contents (Elt F)) (Φ₁ (Proc.devRef .tc Cert.KernelIdeal.main_v2842)) (Φ₂ (Proc.devRef .tc Cert.ReferenceIdeal.main_v2859)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 1) rfl) :) e34
  have e183 : @Eq ((⟨Cert.KernelIdeal.S32x131072, .f32⟩ : BufTy).Contents (Elt F)) (Φ₁ (Proc.devRef .tc Cert.KernelIdeal.main_v2843)) (Φ₂ (Proc.devRef .tc Cert.ReferenceIdeal.main_v2860)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 2) rfl) :) e182
  have e184 : @Eq ((⟨Cert.KernelIdeal.S32x131072, .f32⟩ : BufTy).Contents (Elt F)) (Φ₁ (Proc.devRef .tc Cert.KernelIdeal.main_v2844)) (Φ₂ (Proc.devRef .tc Cert.ReferenceIdeal.main_v2861)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 3) rfl) :) e181 e183
  have e185 : @Eq ((⟨Cert.KernelIdeal.S32x131072, .f32⟩ : BufTy).Contents (Elt F)) (Φ₁ (Proc.devRef .tc Cert.KernelIdeal.main_v2845)) (Φ₂ (Proc.devRef .tc Cert.ReferenceIdeal.main_v2862)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 4) rfl) :) e178 e184
  have e186 : @Eq ((⟨Cert.KernelIdeal.S131072x32, .f32⟩ : BufTy).Contents (Elt F)) (Φ₁ (Proc.devRef .tc Cert.KernelIdeal.main_v2846)) (Φ₂ (Proc.devRef .tc Cert.ReferenceIdeal.main_v2863)) := by rw [eq1 (at_ fa8 (i := 111) rfl), eq1 (at_ fb3 (i := 5) rfl), e185] <;> rfl
  exact e186

end Cert.Bridge

end
-- ==== Proof.RefOps8.lean ====
/- The host operations of @main, window by window, as lists: each window of the printed program is the straight line of
   its operations (a called function's operations stand at the call, over the call's own buffers); every operation
   touches only the TensorCore's buffers and none allocates; and each window is a single-assignment line: its operations
   write the consecutive buffers numbered from the stated bound, each reading only buffers of smaller numbers. -/
import proofs.«133805_j10187662426200_2_alg».proof.Proof.Gen.ReferenceIdeal
import proofs.«133805_j10187662426200_2_alg».proof.Proof.HostChain

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- Window 64 of @main: 60 operations, writing buffers 4328 … 4387. -/
abbrev w64 : List (HloOp τ sig (Elt F)) :=
  [ StableHlo.unary main_c_891 main_v2946 (broadcastInDim S131072 ![] bcast_S_S131072 : (⟨S_, .i32⟩ : BufTy).Contents (Elt F) → (⟨S131072, .i32⟩ : BufTy).Contents (Elt F)),
    StableHlo.binary main_v2901 main_v2946 main_v2947 (addi : (⟨S131072, .i32⟩ : BufTy).Contents (Elt F) → (⟨S131072, .i32⟩ : BufTy).Contents (Elt F) → (⟨S131072, .i32⟩ : BufTy).Contents (Elt F)),
    StableHlo.ternary main_v2945 main_v2947 main_v2901 main_v2948 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_892 (constantI S_ 32 0#32),
    StableHlo.unary main_c_892 main_v2949 (broadcastInDim S131072 ![] bcast_S_S131072 : (⟨S_, .i32⟩ : BufTy).Contents (Elt F) → (⟨S131072, .i32⟩ : BufTy).Contents (Elt F)),
    StableHlo.binary main_v2896 main_v2949 main_v2950 (cmpi .slt : (⟨S131072, .i32⟩ : BufTy).Contents (Elt F) → (⟨S131072, .i32⟩ : BufTy).Contents (Elt F) → (⟨S131072, .i1⟩ : BufTy).Contents (Elt F)),
    StableHlo.nullary main_c_893 (constantI S_ 32 512#32),
    StableHlo.unary main_c_893 main_v2951 (broadcastInDim S131072 ![] bcast_S_S131072 : (⟨S_, .i32⟩ : BufTy).Contents (Elt F) → (⟨S131072, .i32⟩ : BufTy).Contents (Elt F)),
    StableHlo.binary main_v2896 main_v2951 main_v2952 (addi : (⟨S131072, .i32⟩ : BufTy).Contents (Elt F) → (⟨S131072, .i32⟩ : BufTy).Contents (Elt F) → (⟨S131072, .i32⟩ : BufTy).Contents (Elt F)),
    StableHlo.ternary main_v2950 main_v2952 main_v2896 main_v2953 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v2948 main_v2954 (broadcastInDim S131072x1 ![0] bcast_S131072_S131072x1_0 : (⟨S131072, .i32⟩ : BufTy).Contents (Elt F) → (⟨S131072x1, .i32⟩ : BufTy).Contents (Elt F)),
    StableHlo.unary main_v2953 main_v2955 (broadcastInDim S131072x1 ![0] bcast_S131072_S131072x1_0 : (⟨S131072, .i32⟩ : BufTy).Contents (Elt F) → (⟨S131072x1, .i32⟩ : BufTy).Contents (Elt F)),
    StableHlo.binary main_v2954 main_v2955 main_v2956 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg24 main_v2956 main_v2957 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_cst_894 (constant S_ .f32 0x3F800000#32),
    StableHlo.unary main_cst_894 main_v2958 (broadcastInDim S131072 ![] bcast_S_S131072 : (⟨S_, .f32⟩ : BufTy).Contents (Elt F) → (⟨S131072, .f32⟩ : BufTy).Contents (Elt F)),
    StableHlo.binary main_v2958 main_v2890 main_v2959 (subf : (⟨S131072, .f32⟩ : BufTy).Contents (Elt F) → (⟨S131072, .f32⟩ : BufTy).Contents (Elt F) → (⟨S131072, .f32⟩ : BufTy).Contents (Elt F)),
    StableHlo.unary main_v2959 main_v2960 (broadcastInDim S1x131072 ![1] bcast_S131072_S1x131072_1 : (⟨S131072, .f32⟩ : BufTy).Contents (Elt F) → (⟨S1x131072, .f32⟩ : BufTy).Contents (Elt F)),
    StableHlo.unary main_v2960 main_v2961 (broadcastInDim S32x131072 ![0, 1] bcast_S1x131072_S32x131072_0_1 : (⟨S1x131072, .f32⟩ : BufTy).Contents (Elt F) → (⟨S32x131072, .f32⟩ : BufTy).Contents (Elt F)),
    StableHlo.binary main_v2915 main_v2961 main_v2962 (mulf : (⟨S32x131072, .f32⟩ : BufTy).Contents (Elt F) → (⟨S32x131072, .f32⟩ : BufTy).Contents (Elt F) → (⟨S32x131072, .f32⟩ : BufTy).Contents (Elt F)),
    StableHlo.nullary main_cst_895 (constant S_ .f32 0x3F800000#32),
    StableHlo.unary main_cst_895 main_v2963 (broadcastInDim S131072 ![] bcast_S_S131072 : (⟨S_, .f32⟩ : BufTy).Contents (Elt F) → (⟨S131072, .f32⟩ : BufTy).Contents (Elt F)),
    StableHlo.binary main_v2963 main_v2891 main_v2964 (subf : (⟨S131072, .f32⟩ : BufTy).Contents (Elt F) → (⟨S131072, .f32⟩ : BufTy).Contents (Elt F) → (⟨S131072, .f32⟩ : BufTy).Contents (Elt F)),
    StableHlo.unary main_v2964 main_v2965 (broadcastInDim S1x131072 ![1] bcast_S131072_S1x131072_1 : (⟨S131072, .f32⟩ : BufTy).Contents (Elt F) → (⟨S1x131072, .f32⟩ : BufTy).Contents (Elt F)),
    StableHlo.unary main_v2965 main_v2966 (broadcastInDim S32x131072 ![0, 1] bcast_S1x131072_S32x131072_0_1 : (⟨S1x131072, .f32⟩ : BufTy).Contents (Elt F) → (⟨S32x131072, .f32⟩ : BufTy).Contents (Elt F)),
    StableHlo.binary main_v2962 main_v2966 main_v2967 (mulf : (⟨S32x131072, .f32⟩ : BufTy).Contents (Elt F) → (⟨S32x131072, .f32⟩ : BufTy).Contents (Elt F) → (⟨S32x131072, .f32⟩ : BufTy).Contents (Elt F)),
    StableHlo.unary main_v2890 main_v2968 (broadcastInDim S1x131072 ![1] bcast_S131072_S1x131072_1 : (⟨S131072, .f32⟩ : BufTy).Contents (Elt F) → (⟨S1x131072, .f32⟩ : BufTy).Contents (Elt F)),
    StableHlo.unary main_v2968 main_v2969 (broadcastInDim S32x131072 ![0, 1] bcast_S1x131072_S32x131072_0_1 : (⟨S1x131072, .f32⟩ : BufTy).Contents (Elt F) → (⟨S32x131072, .f32⟩ : BufTy).Contents (Elt F)),
    StableHlo.binary main_v2929 main_v2969 main_v2970 (mulf : (⟨S32x131072, .f32⟩ : BufTy).Contents (Elt F) → (⟨S32x131072, .f32⟩ : BufTy).Contents (Elt F) → (⟨S32x131072, .f32⟩ : BufTy).Contents (Elt F)),
    StableHlo.nullary main_cst_896 (constant S_ .f32 0x3F800000#32),
    StableHlo.unary main_cst_896 main_v2971 (broadcastInDim S131072 ![] bcast_S_S131072 : (⟨S_, .f32⟩ : BufTy).Contents (Elt F) → (⟨S131072, .f32⟩ : BufTy).Contents (Elt F)),
    StableHlo.binary main_v2971 main_v2891 main_v2972 (subf : (⟨S131072, .f32⟩ : BufTy).Contents (Elt F) → (⟨S131072, .f32⟩ : BufTy).Contents (Elt F) → (⟨S131072, .f32⟩ : BufTy).Contents (Elt F)),
    StableHlo.unary main_v2972 main_v2973 (broadcastInDim S1x131072 ![1] bcast_S131072_S1x131072_1 : (⟨S131072, .f32⟩ : BufTy).Contents (Elt F) → (⟨S1x131072, .f32⟩ : BufTy).Contents (Elt F)),
    StableHlo.unary main_v2973 main_v2974 (broadcastInDim S32x131072 ![0, 1] bcast_S1x131072_S32x131072_0_1 : (⟨S1x131072, .f32⟩ : BufTy).Contents (Elt F) → (⟨S32x131072, .f32⟩ : BufTy).Contents (Elt F)),
    StableHlo.binary main_v2970 main_v2974 main_v2975 (mulf : (⟨S32x131072, .f32⟩ : BufTy).Contents (Elt F) → (⟨S32x131072, .f32⟩ : BufTy).Contents (Elt F) → (⟨S32x131072, .f32⟩ : BufTy).Contents (Elt F)),
    StableHlo.binary main_v2967 main_v2975 main_v2976 (addf : (⟨S32x131072, .f32⟩ : BufTy).Contents (Elt F) → (⟨S32x131072, .f32⟩ : BufTy).Contents (Elt F) → (⟨S32x131072, .f32⟩ : BufTy).Contents (Elt F)),
    StableHlo.nullary main_cst_897 (constant S_ .f32 0x3F800000#32),
    StableHlo.unary main_cst_897 main_v2977 (broadcastInDim S131072 ![] bcast_S_S131072 : (⟨S_, .f32⟩ : BufTy).Contents (Elt F) → (⟨S131072, .f32⟩ : BufTy).Contents (Elt F)),
    StableHlo.binary main_v2977 main_v2890 main_v2978 (subf : (⟨S131072, .f32⟩ : BufTy).Contents (Elt F) → (⟨S131072, .f32⟩ : BufTy).Contents (Elt F) → (⟨S131072, .f32⟩ : BufTy).Contents (Elt F)),
    StableHlo.unary main_v2978 main_v2979 (broadcastInDim S1x131072 ![1] bcast_S131072_S1x131072_1 : (⟨S131072, .f32⟩ : BufTy).Contents (Elt F) → (⟨S1x131072, .f32⟩ : BufTy).Contents (Elt F)),
    StableHlo.unary main_v2979 main_v2980 (broadcastInDim S32x131072 ![0, 1] bcast_S1x131072_S32x131072_0_1 : (⟨S1x131072, .f32⟩ : BufTy).Contents (Elt F) → (⟨S32x131072, .f32⟩ : BufTy).Contents (Elt F)),
    StableHlo.binary main_v2943 main_v2980 main_v2981 (mulf : (⟨S32x131072, .f32⟩ : BufTy).Contents (Elt F) → (⟨S32x131072, .f32⟩ : BufTy).Contents (Elt F) → (⟨S32x131072, .f32⟩ : BufTy).Contents (Elt F)),
    StableHlo.unary main_v2891 main_v2982 (broadcastInDim S1x131072 ![1] bcast_S131072_S1x131072_1 : (⟨S131072, .f32⟩ : BufTy).Contents (Elt F) → (⟨S1x131072, .f32⟩ : BufTy).Contents (Elt F)),
    StableHlo.unary main_v2982 main_v2983 (broadcastInDim S32x131072 ![0, 1] bcast_S1x131072_S32x131072_0_1 : (⟨S1x131072, .f32⟩ : BufTy).Contents (Elt F) → (⟨S32x131072, .f32⟩ : BufTy).Contents (Elt F)),
    StableHlo.binary main_v2981 main_v2983 main_v2984 (mulf : (⟨S32x131072, .f32⟩ : BufTy).Contents (Elt F) → (⟨S32x131072, .f32⟩ : BufTy).Contents (Elt F) → (⟨S32x131072, .f32⟩ : BufTy).Contents (Elt F)),
    StableHlo.binary main_v2976 main_v2984 main_v2985 (addf : (⟨S32x131072, .f32⟩ : BufTy).Contents (Elt F) → (⟨S32x131072, .f32⟩ : BufTy).Contents (Elt F) → (⟨S32x131072, .f32⟩ : BufTy).Contents (Elt F)),
    StableHlo.unary main_v2890 main_v2986 (broadcastInDim S1x131072 ![1] bcast_S131072_S1x131072_1 : (⟨S131072, .f32⟩ : BufTy).Contents (Elt F) → (⟨S1x131072, .f32⟩ : BufTy).Contents (Elt F)),
    StableHlo.unary main_v2986 main_v2987 (broadcastInDim S32x131072 ![0, 1] bcast_S1x131072_S32x131072_0_1 : (⟨S1x131072, .f32⟩ : BufTy).Contents (Elt F) → (⟨S32x131072, .f32⟩ : BufTy).Contents (Elt F)),
    StableHlo.binary main_v2957 main_v2987 main_v2988 (mulf : (⟨S32x131072, .f32⟩ : BufTy).Contents (Elt F) → (⟨S32x131072, .f32⟩ : BufTy).Contents (Elt F) → (⟨S32x131072, .f32⟩ : BufTy).Contents (Elt F)),
    StableHlo.unary main_v2891 main_v2989 (broadcastInDim S1x131072 ![1] bcast_S131072_S1x131072_1 : (⟨S131072, .f32⟩ : BufTy).Contents (Elt F) → (⟨S1x131072, .f32⟩ : BufTy).Contents (Elt F)),
    StableHlo.unary main_v2989 main_v2990 (broadcastInDim S32x131072 ![0, 1] bcast_S1x131072_S32x131072_0_1 : (⟨S1x131072, .f32⟩ : BufTy).Contents (Elt F) → (⟨S32x131072, .f32⟩ : BufTy).Contents (Elt F)),
    StableHlo.binary main_v2988 main_v2990 main_v2991 (mulf : (⟨S32x131072, .f32⟩ : BufTy).Contents (Elt F) → (⟨S32x131072, .f32⟩ : BufTy).Contents (Elt F) → (⟨S32x131072, .f32⟩ : BufTy).Contents (Elt F)),
    StableHlo.binary main_v2985 main_v2991 main_v2992 (addf : (⟨S32x131072, .f32⟩ : BufTy).Contents (Elt F) → (⟨S32x131072, .f32⟩ : BufTy).Contents (Elt F) → (⟨S32x131072, .f32⟩ : BufTy).Contents (Elt F)),
    StableHlo.unary main_v2992 main_v2993 ((transpose S131072x32 [1, 0] · transposes_S32x131072_S131072x32_1_0) : (⟨S32x131072, .f32⟩ : BufTy).Contents (Elt F) → (⟨S131072x32, .f32⟩ : BufTy).Contents (Elt F)),
    StableHlo.binary main_v2864 main_v2993 main_v2994 (mulf : (⟨S131072x32, .f32⟩ : BufTy).Contents (Elt F) → (⟨S131072x32, .f32⟩ : BufTy).Contents (Elt F) → (⟨S131072x32, .f32⟩ : BufTy).Contents (Elt F)),
    StableHlo.nullary main_c_898 (constantI S_ 32 0#32),
    StableHlo.unary main_c_898 main_v2995 (broadcastInDim S2 ![] bcast_S_S2 : (⟨S_, .i32⟩ : BufTy).Contents (Elt F) → (⟨S2, .i32⟩ : BufTy).Contents (Elt F)),
    StableHlo.binary main_c_22 main_v2995 main_v2996 (cmpi .slt : (⟨S2, .i32⟩ : BufTy).Contents (Elt F) → (⟨S2, .i32⟩ : BufTy).Contents (Elt F) → (⟨S2, .i1⟩ : BufTy).Contents (Elt F)),
    StableHlo.nullary main_c_899 (constantI S_ 32 4#32),
    StableHlo.unary main_c_899 main_v2997 (broadcastInDim S2 ![] bcast_S_S2 : (⟨S_, .i32⟩ : BufTy).Contents (Elt F) → (⟨S2, .i32⟩ : BufTy).Contents (Elt F)) ]
theorem w64_eq (c : Dev nD) : main_part64 (F := F) c = seq w64 := rfl
theorem w64_sub : (w64 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., nullary_bufs_sub .., unary_bufs_sub ..⟩
theorem w64_fresh : (w64 : List (HloOp τ sig (Elt F))).Forall fun op => op.fresh = ∅ := by
  simp only [List.Forall]; repeat' constructor
set_option maxHeartbeats 4000000 in
theorem w64_chain : Chain 4328 (w64 : List (HloOp τ sig (Elt F))) :=
  Chain.cons (stepAt_unary 4328 _ _ _ rfl (by decide)) <|
  Chain.cons (stepAt_binary 4329 _ _ _ _ rfl (by decide) (by decide)) <|
  Chain.cons (stepAt_ternary 4330 _ _ _ _ _ rfl (by decide) (by decide) (by decide)) <|
  Chain.cons (stepAt_nullary 4331 _ _ rfl) <|
  Chain.cons (stepAt_unary 4332 _ _ _ rfl (by decide)) <|
  Chain.cons (stepAt_binary 4333 _ _ _ _ rfl (by decide) (by decide)) <|
  Chain.cons (stepAt_nullary 4334 _ _ rfl) <|
  Chain.cons (stepAt_unary 4335 _ _ _ rfl (by decide)) <|
  Chain.cons (stepAt_binary 4336 _ _ _ _ rfl (by decide) (by decide)) <|
  Chain.cons (stepAt_ternary 4337 _ _ _ _ _ rfl (by decide) (by decide) (by decide)) <|
  Chain.cons (stepAt_unary 4338 _ _ _ rfl (by decide)) <|
  Chain.cons (stepAt_unary 4339 _ _ _ rfl (by decide)) <|
  Chain.cons (stepAt_binary 4340 _ _ _ _ rfl (by decide) (by decide)) <|
  Chain.cons (stepAt_binary 4341 _ _ _ _ rfl (by decide) (by decide)) <|
  Chain.cons (stepAt_nullary 4342 _ _ rfl) <|
  Chain.cons (stepAt_unary 4343 _ _ _ rfl (by decide)) <|
  Chain.cons (stepAt_binary 4344 _ _ _ _ rfl (by decide) (by decide)) <|
  Chain.cons (stepAt_unary 4345 _ _ _ rfl (by decide)) <|
  Chain.cons (stepAt_unary 4346 _ _ _ rfl (by decide)) <|
  Chain.cons (stepAt_binary 4347 _ _ _ _ rfl (by decide) (by decide)) <|
  Chain.cons (stepAt_nullary 4348 _ _ rfl) <|
  Chain.cons (stepAt_unary 4349 _ _ _ rfl (by decide)) <|
  Chain.cons (stepAt_binary 4350 _ _ _ _ rfl (by decide) (by decide)) <|
  Chain.cons (stepAt_unary 4351 _ _ _ rfl (by decide)) <|
  Chain.cons (stepAt_unary 4352 _ _ _ rfl (by decide)) <|
  Chain.cons (stepAt_binary 4353 _ _ _ _ rfl (by decide) (by decide)) <|
  Chain.cons (stepAt_unary 4354 _ _ _ rfl (by decide)) <|
  Chain.cons (stepAt_unary 4355 _ _ _ rfl (by decide)) <|
  Chain.cons (stepAt_binary 4356 _ _ _ _ rfl (by decide) (by decide)) <|
  Chain.cons (stepAt_nullary 4357 _ _ rfl) <|
  Chain.cons (stepAt_unary 4358 _ _ _ rfl (by decide)) <|
  Chain.cons (stepAt_binary 4359 _ _ _ _ rfl (by decide) (by decide)) <|
  Chain.cons (stepAt_unary 4360 _ _ _ rfl (by decide)) <|
  Chain.cons (stepAt_unary 4361 _ _ _ rfl (by decide)) <|
  Chain.cons (stepAt_binary 4362 _ _ _ _ rfl (by decide) (by decide)) <|
  Chain.cons (stepAt_binary 4363 _ _ _ _ rfl (by decide) (by decide)) <|
  Chain.cons (stepAt_nullary 4364 _ _ rfl) <|
  Chain.cons (stepAt_unary 4365 _ _ _ rfl (by decide)) <|
  Chain.cons (stepAt_binary 4366 _ _ _ _ rfl (by decide) (by decide)) <|
  Chain.cons (stepAt_unary 4367 _ _ _ rfl (by decide)) <|
  Chain.cons (stepAt_unary 4368 _ _ _ rfl (by decide)) <|
  Chain.cons (stepAt_binary 4369 _ _ _ _ rfl (by decide) (by decide)) <|
  Chain.cons (stepAt_unary 4370 _ _ _ rfl (by decide)) <|
  Chain.cons (stepAt_unary 4371 _ _ _ rfl (by decide)) <|
  Chain.cons (stepAt_binary 4372 _ _ _ _ rfl (by decide) (by decide)) <|
  Chain.cons (stepAt_binary 4373 _ _ _ _ rfl (by decide) (by decide)) <|
  Chain.cons (stepAt_unary 4374 _ _ _ rfl (by decide)) <|
  Chain.cons (stepAt_unary 4375 _ _ _ rfl (by decide)) <|
  Chain.cons (stepAt_binary 4376 _ _ _ _ rfl (by decide) (by decide)) <|
  Chain.cons (stepAt_unary 4377 _ _ _ rfl (by decide)) <|
  Chain.cons (stepAt_unary 4378 _ _ _ rfl (by decide)) <|
  Chain.cons (stepAt_binary 4379 _ _ _ _ rfl (by decide) (by decide)) <|
  Chain.cons (stepAt_binary 4380 _ _ _ _ rfl (by decide) (by decide)) <|
  Chain.cons (stepAt_unary 4381 _ _ _ rfl (by decide)) <|
  Chain.cons (stepAt_binary 4382 _ _ _ _ rfl (by decide) (by decide)) <|
  Chain.cons (stepAt_nullary 4383 _ _ rfl) <|
  Chain.cons (stepAt_unary 4384 _ _ _ rfl (by decide)) <|
  Chain.cons (stepAt_binary 4385 _ _ _ _ rfl (by decide) (by decide)) <|
  Chain.cons (stepAt_nullary 4386 _ _ rfl) <|
  Chain.cons (stepAt_unary 4387 _ _ _ rfl (by decide)) <|
  Chain.nil
theorem w64_length : (w64 : List (HloOp τ sig (Elt F))).length = 60 := rfl

/-- Window 65 of @main: 80 operations, writing buffers 4388 … 4467. -/
abbrev w65 : List (HloOp τ sig (Elt F)) :=
  [ StableHlo.binary main_c_22 main_v2997 main_v2998 (addi : (⟨S2, .i32⟩ : BufTy).Contents (Elt F) → (⟨S2, .i32⟩ : BufTy).Contents (Elt F) → (⟨S2, .i32⟩ : BufTy).Contents (Elt F)),
    StableHlo.ternary main_v2996 main_v2998 main_c_22 main_v2999 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v2999 main_v3000 (broadcastInDim S2x1 ![0] bcast_S2_S2x1_0 : (⟨S2, .i32⟩ : BufTy).Contents (Elt F) → (⟨S2x1, .i32⟩ : BufTy).Contents (Elt F)),
    StableHlo.binary main_v8 main_v3000 main_v3001 ((fun x i => Host.gather gather_S131072x4_S2x1_S131072x2_0_1_n_n_1_1_1310721 x i) : (⟨S131072x4, .f32⟩ : BufTy).Contents (Elt F) → (⟨S2x1, .i32⟩ : BufTy).Contents (Elt F) → (⟨S131072x2, .f32⟩ : BufTy).Contents (Elt F)),
    StableHlo.unary main_v3001 main_v3002 ((extractStridedSlice S131072x1 ![0, 0] · slices_S131072x2_S131072x1_0_0) : (⟨S131072x2, .f32⟩ : BufTy).Contents (Elt F) → (⟨S131072x1, .f32⟩ : BufTy).Contents (Elt F)),
    StableHlo.reshape main_v3002 main_v3003 rfl shapeCasts_S131072x1_S131072,
    StableHlo.nullary main_cst_900 (constant S_ .f32 0x3F800000#32),
    StableHlo.unary main_cst_900 main_v3004 (broadcastInDim S131072 ![] bcast_S_S131072 : (⟨S_, .f32⟩ : BufTy).Contents (Elt F) → (⟨S131072, .f32⟩ : BufTy).Contents (Elt F)),
    StableHlo.binary main_v3003 main_v3004 main_v3005 (addf : (⟨S131072, .f32⟩ : BufTy).Contents (Elt F) → (⟨S131072, .f32⟩ : BufTy).Contents (Elt F) → (⟨S131072, .f32⟩ : BufTy).Contents (Elt F)),
    StableHlo.nullary main_cst_901 (constant S_ .f32 0x3F000000#32),
    StableHlo.unary main_cst_901 main_v3006 (broadcastInDim S131072 ![] bcast_S_S131072 : (⟨S_, .f32⟩ : BufTy).Contents (Elt F) → (⟨S131072, .f32⟩ : BufTy).Contents (Elt F)),
    StableHlo.binary main_v3005 main_v3006 main_v3007 (mulf : (⟨S131072, .f32⟩ : BufTy).Contents (Elt F) → (⟨S131072, .f32⟩ : BufTy).Contents (Elt F) → (⟨S131072, .f32⟩ : BufTy).Contents (Elt F)),
    StableHlo.nullary main_cst_902 (constant S_ .f32 0x43FF8000#32),
    StableHlo.unary main_cst_902 main_v3008 (broadcastInDim S131072 ![] bcast_S_S131072 : (⟨S_, .f32⟩ : BufTy).Contents (Elt F) → (⟨S131072, .f32⟩ : BufTy).Contents (Elt F)),
    StableHlo.binary main_v3007 main_v3008 main_v3009 (mulf : (⟨S131072, .f32⟩ : BufTy).Contents (Elt F) → (⟨S131072, .f32⟩ : BufTy).Contents (Elt F) → (⟨S131072, .f32⟩ : BufTy).Contents (Elt F)),
    StableHlo.unary main_v3001 main_v3010 ((extractStridedSlice S131072x1 ![0, 1] · slices_S131072x2_S131072x1_0_1) : (⟨S131072x2, .f32⟩ : BufTy).Contents (Elt F) → (⟨S131072x1, .f32⟩ : BufTy).Contents (Elt F)),
    StableHlo.reshape main_v3010 main_v3011 rfl shapeCasts_S131072x1_S131072,
    StableHlo.nullary main_cst_903 (constant S_ .f32 0x3F800000#32),
    StableHlo.unary main_cst_903 main_v3012 (broadcastInDim S131072 ![] bcast_S_S131072 : (⟨S_, .f32⟩ : BufTy).Contents (Elt F) → (⟨S131072, .f32⟩ : BufTy).Contents (Elt F)),
    StableHlo.binary main_v3011 main_v3012 main_v3013 (addf : (⟨S131072, .f32⟩ : BufTy).Contents (Elt F) → (⟨S131072, .f32⟩ : BufTy).Contents (Elt F) → (⟨S131072, .f32⟩ : BufTy).Contents (Elt F)),
    StableHlo.nullary main_cst_904 (constant S_ .f32 0x3F000000#32),
    StableHlo.unary main_cst_904 main_v3014 (broadcastInDim S131072 ![] bcast_S_S131072 : (⟨S_, .f32⟩ : BufTy).Contents (Elt F) → (⟨S131072, .f32⟩ : BufTy).Contents (Elt F)),
    StableHlo.binary main_v3013 main_v3014 main_v3015 (mulf : (⟨S131072, .f32⟩ : BufTy).Contents (Elt F) → (⟨S131072, .f32⟩ : BufTy).Contents (Elt F) → (⟨S131072, .f32⟩ : BufTy).Contents (Elt F)),
    StableHlo.nullary main_cst_905 (constant S_ .f32 0x43150000#32),
    StableHlo.unary main_cst_905 main_v3016 (broadcastInDim S131072 ![] bcast_S_S131072 : (⟨S_, .f32⟩ : BufTy).Contents (Elt F) → (⟨S131072, .f32⟩ : BufTy).Contents (Elt F)),
    StableHlo.binary main_v3015 main_v3016 main_v3017 (mulf : (⟨S131072, .f32⟩ : BufTy).Contents (Elt F) → (⟨S131072, .f32⟩ : BufTy).Contents (Elt F) → (⟨S131072, .f32⟩ : BufTy).Contents (Elt F)),
    StableHlo.unary main_v3009 main_v3018 (Host.floor : (⟨S131072, .f32⟩ : BufTy).Contents (Elt F) → (⟨S131072, .f32⟩ : BufTy).Contents (Elt F)),
    StableHlo.unary main_v3017 main_v3019 (Host.floor : (⟨S131072, .f32⟩ : BufTy).Contents (Elt F) → (⟨S131072, .f32⟩ : BufTy).Contents (Elt F)),
    StableHlo.binary main_v3009 main_v3018 main_v3020 (subf : (⟨S131072, .f32⟩ : BufTy).Contents (Elt F) → (⟨S131072, .f32⟩ : BufTy).Contents (Elt F) → (⟨S131072, .f32⟩ : BufTy).Contents (Elt F)),
    StableHlo.binary main_v3017 main_v3019 main_v3021 (subf : (⟨S131072, .f32⟩ : BufTy).Contents (Elt F) → (⟨S131072, .f32⟩ : BufTy).Contents (Elt F) → (⟨S131072, .f32⟩ : BufTy).Contents (Elt F)),
    StableHlo.unary main_v3018 main_v3022 (fptosi 32 : (⟨S131072, .f32⟩ : BufTy).Contents (Elt F) → (⟨S131072, .i32⟩ : BufTy).Contents (Elt F)),
    StableHlo.nullary main_c_906 (constantI S_ 32 0#32),
    StableHlo.nullary main_c_907 (constantI S_ 32 511#32),
    StableHlo.TRef.unary (.of main_c_906) main_call92.v0 id,
    StableHlo.TRef.unary main_call92.v0 main_call92.v1 (broadcastInDim S131072 ![] bcast_S_S131072),
    StableHlo.TRef.binary main_call92.v1 (.of main_v3022) main_call92.v2 maxsi,
    StableHlo.TRef.unary (.of main_c_907) main_call92.v3 id,
    StableHlo.TRef.unary main_call92.v3 main_call92.v4 (broadcastInDim S131072 ![] bcast_S_S131072),
    StableHlo.TRef.binary main_call92.v4 main_call92.v2 main_call92.v5 minsi,
    StableHlo.nullary main_c_908 (constantI S_ 32 1#32),
    StableHlo.unary main_c_908 main_v3024 (broadcastInDim S131072 ![] bcast_S_S131072 : (⟨S_, .i32⟩ : BufTy).Contents (Elt F) → (⟨S131072, .i32⟩ : BufTy).Contents (Elt F)),
    StableHlo.binary main_v3023 main_v3024 main_v3025 (addi : (⟨S131072, .i32⟩ : BufTy).Contents (Elt F) → (⟨S131072, .i32⟩ : BufTy).Contents (Elt F) → (⟨S131072, .i32⟩ : BufTy).Contents (Elt F)),
    StableHlo.nullary main_c_909 (constantI S_ 32 0#32),
    StableHlo.nullary main_c_910 (constantI S_ 32 511#32),
    StableHlo.TRef.unary (.of main_c_909) main_call93.v0 id,
    StableHlo.TRef.unary main_call93.v0 main_call93.v1 (broadcastInDim S131072 ![] bcast_S_S131072),
    StableHlo.TRef.binary main_call93.v1 (.of main_v3025) main_call93.v2 maxsi,
    StableHlo.TRef.unary (.of main_c_910) main_call93.v3 id,
    StableHlo.TRef.unary main_call93.v3 main_call93.v4 (broadcastInDim S131072 ![] bcast_S_S131072),
    StableHlo.TRef.binary main_call93.v4 main_call93.v2 main_call93.v5 minsi,
    StableHlo.unary main_v3019 main_v3027 (fptosi 32 : (⟨S131072, .f32⟩ : BufTy).Contents (Elt F) → (⟨S131072, .i32⟩ : BufTy).Contents (Elt F)),
    StableHlo.nullary main_c_911 (constantI S_ 32 0#32),
    StableHlo.nullary main_c_912 (constantI S_ 32 149#32),
    StableHlo.TRef.unary (.of main_c_911) main_call94.v0 id,
    StableHlo.TRef.unary main_call94.v0 main_call94.v1 (broadcastInDim S131072 ![] bcast_S_S131072),
    StableHlo.TRef.binary main_call94.v1 (.of main_v3027) main_call94.v2 maxsi,
    StableHlo.TRef.unary (.of main_c_912) main_call94.v3 id,
    StableHlo.TRef.unary main_call94.v3 main_call94.v4 (broadcastInDim S131072 ![] bcast_S_S131072),
    StableHlo.TRef.binary main_call94.v4 main_call94.v2 main_call94.v5 minsi,
    StableHlo.nullary main_c_913 (constantI S_ 32 1#32),
    StableHlo.unary main_c_913 main_v3029 (broadcastInDim S131072 ![] bcast_S_S131072 : (⟨S_, .i32⟩ : BufTy).Contents (Elt F) → (⟨S131072, .i32⟩ : BufTy).Contents (Elt F)),
    StableHlo.binary main_v3028 main_v3029 main_v3030 (addi : (⟨S131072, .i32⟩ : BufTy).Contents (Elt F) → (⟨S131072, .i32⟩ : BufTy).Contents (Elt F) → (⟨S131072, .i32⟩ : BufTy).Contents (Elt F)),
    StableHlo.nullary main_c_914 (constantI S_ 32 0#32),
    StableHlo.nullary main_c_915 (constantI S_ 32 149#32),
    StableHlo.TRef.unary (.of main_c_914) main_call95.v0 id,
    StableHlo.TRef.unary main_call95.v0 main_call95.v1 (broadcastInDim S131072 ![] bcast_S_S131072),
    StableHlo.TRef.binary main_call95.v1 (.of main_v3030) main_call95.v2 maxsi,
    StableHlo.TRef.unary (.of main_c_915) main_call95.v3 id,
    StableHlo.TRef.unary main_call95.v3 main_call95.v4 (broadcastInDim S131072 ![] bcast_S_S131072),
    StableHlo.TRef.binary main_call95.v4 main_call95.v2 main_call95.v5 minsi,
    StableHlo.nullary main_c_916 (constantI S_ 32 0#32),
    StableHlo.unary main_c_916 main_v3032 (broadcastInDim S131072 ![] bcast_S_S131072 : (⟨S_, .i32⟩ : BufTy).Contents (Elt F) → (⟨S131072, .i32⟩ : BufTy).Contents (Elt F)),
    StableHlo.binary main_v3028 main_v3032 main_v3033 (cmpi .slt : (⟨S131072, .i32⟩ : BufTy).Contents (Elt F) → (⟨S131072, .i32⟩ : BufTy).Contents (Elt F) → (⟨S131072, .i1⟩ : BufTy).Contents (Elt F)),
    StableHlo.nullary main_c_917 (constantI S_ 32 150#32),
    StableHlo.unary main_c_917 main_v3034 (broadcastInDim S131072 ![] bcast_S_S131072 : (⟨S_, .i32⟩ : BufTy).Contents (Elt F) → (⟨S131072, .i32⟩ : BufTy).Contents (Elt F)),
    StableHlo.binary main_v3028 main_v3034 main_v3035 (addi : (⟨S131072, .i32⟩ : BufTy).Contents (Elt F) → (⟨S131072, .i32⟩ : BufTy).Contents (Elt F) → (⟨S131072, .i32⟩ : BufTy).Contents (Elt F)),
    StableHlo.ternary main_v3033 main_v3035 main_v3028 main_v3036 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_918 (constantI S_ 32 0#32),
    StableHlo.unary main_c_918 main_v3037 (broadcastInDim S131072 ![] bcast_S_S131072 : (⟨S_, .i32⟩ : BufTy).Contents (Elt F) → (⟨S131072, .i32⟩ : BufTy).Contents (Elt F)),
    StableHlo.binary main_v3023 main_v3037 main_v3038 (cmpi .slt : (⟨S131072, .i32⟩ : BufTy).Contents (Elt F) → (⟨S131072, .i32⟩ : BufTy).Contents (Elt F) → (⟨S131072, .i1⟩ : BufTy).Contents (Elt F)) ]
theorem w65_eq (c : Dev nD) : main_part65 (F := F) c = seq w65 := rfl
theorem w65_sub : (w65 : List (HloOp τ sig (Elt F))).Forall fun op => op.bufs ⊆ tcRefs τ sig :=
  ⟨binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
theorem w65_fresh : (w65 : List (HloOp τ sig (Elt F))).Forall fun op => op.fresh = ∅ := by
  simp only [List.Forall]; repeat' constructor
set_option maxHeartbeats 4000000 in
theorem w65_chain : Chain 4388 (w65 : List (HloOp τ sig (Elt F))) :=
  Chain.cons (stepAt_binary 4388 _ _ _ _ rfl (by decide) (by decide)) <|
  Chain.cons (stepAt_ternary 4389 _ _ _ _ _ rfl (by decide) (by decide) (by decide)) <|
  Chain.cons (stepAt_unary 4390 _ _ _ rfl (by decide)) <|
  Chain.cons (stepAt_binary 4391 _ _ _ _ rfl (by decide) (by decide)) <|
  Chain.cons (stepAt_unary 4392 _ _ _ rfl (by decide)) <|
  Chain.cons (stepAt_reshape 4393 _ _ _ _ rfl (by decide)) <|
  Chain.cons (stepAt_nullary 4394 _ _ rfl) <|
  Chain.cons (stepAt_unary 4395 _ _ _ rfl (by decide)) <|
  Chain.cons (stepAt_binary 4396 _ _ _ _ rfl (by decide) (by decide)) <|
  Chain.cons (stepAt_nullary 4397 _ _ rfl) <|
  Chain.cons (stepAt_unary 4398 _ _ _ rfl (by decide)) <|
  Chain.cons (stepAt_binary 4399 _ _ _ _ rfl (by decide) (by decide)) <|
  Chain.cons (stepAt_nullary 4400 _ _ rfl) <|
  Chain.cons (stepAt_unary 4401 _ _ _ rfl (by decide)) <|
  Chain.cons (stepAt_binary 4402 _ _ _ _ rfl (by decide) (by decide)) <|
  Chain.cons (stepAt_unary 4403 _ _ _ rfl (by decide)) <|
  Chain.cons (stepAt_reshape 4404 _ _ _ _ rfl (by decide)) <|
  Chain.cons (stepAt_nullary 4405 _ _ rfl) <|
  Chain.cons (stepAt_unary 4406 _ _ _ rfl (by decide)) <|
  Chain.cons (stepAt_binary 4407 _ _ _ _ rfl (by decide) (by decide)) <|
  Chain.cons (stepAt_nullary 4408 _ _ rfl) <|
  Chain.cons (stepAt_unary 4409 _ _ _ rfl (by decide)) <|
  Chain.cons (stepAt_binary 4410 _ _ _ _ rfl (by decide) (by decide)) <|
  Chain.cons (stepAt_nullary 4411 _ _ rfl) <|
  Chain.cons (stepAt_unary 4412 _ _ _ rfl (by decide)) <|
  Chain.cons (stepAt_binary 4413 _ _ _ _ rfl (by decide) (by decide)) <|
  Chain.cons (stepAt_unary 4414 _ _ _ rfl (by decide)) <|
  Chain.cons (stepAt_unary 4415 _ _ _ rfl (by decide)) <|
  Chain.cons (stepAt_binary 4416 _ _ _ _ rfl (by decide) (by decide)) <|
  Chain.cons (stepAt_binary 4417 _ _ _ _ rfl (by decide) (by decide)) <|
  Chain.cons (stepAt_unary 4418 _ _ _ rfl (by decide)) <|
  Chain.cons (stepAt_nullary 4419 _ _ rfl) <|
  Chain.cons (stepAt_nullary 4420 _ _ rfl) <|
  Chain.cons (stepAt_unary 4421 _ _ _ rfl (by decide)) <|
  Chain.cons (stepAt_unary 4422 _ _ _ rfl (by decide)) <|
  Chain.cons (stepAt_binary 4423 _ _ _ _ rfl (by decide) (by decide)) <|
  Chain.cons (stepAt_unary 4424 _ _ _ rfl (by decide)) <|
  Chain.cons (stepAt_unary 4425 _ _ _ rfl (by decide)) <|
  Chain.cons (stepAt_binary 4426 _ _ _ _ rfl (by decide) (by decide)) <|
  Chain.cons (stepAt_nullary 4427 _ _ rfl) <|
  Chain.cons (stepAt_unary 4428 _ _ _ rfl (by decide)) <|
  Chain.cons (stepAt_binary 4429 _ _ _ _ rfl (by decide) (by decide)) <|
  Chain.cons (stepAt_nullary 4430 _ _ rfl) <|
  Chain.cons (stepAt_nullary 4431 _ _ rfl) <|
  Chain.cons (stepAt_unary 4432 _ _ _ rfl (by decide)) <|
  Chain.cons (stepAt_unary 4433 _ _ _ rfl (by decide)) <|
  Chain.cons (stepAt_binary 4434 _ _ _ _ rfl (by decide) (by decide)) <|
  Chain.cons (stepAt_unary 4435 _ _ _ rfl (by decide)) <|
  Chain.cons (stepAt_unary 4436 _ _ _ rfl (by decide)) <|
  Chain.cons (stepAt_binary 4437 _ _ _ _ rfl (by decide) (by decide)) <|
  Chain.cons (stepAt_unary 4438 _ _ _ rfl (by decide)) <|
  Chain.cons (stepAt_nullary 4439 _ _ rfl) <|
  Chain.cons (stepAt_nullary 4440 _ _ rfl) <|
  Chain.cons (stepAt_unary 4441 _ _ _ rfl (by decide)) <|
  Chain.cons (stepAt_unary 4442 _ _ _ rfl (by decide)) <|
  Chain.cons (stepAt_binary 4443 _ _ _ _ rfl (by decide) (by decide)) <|
  Chain.cons (stepAt_unary 4444 _ _ _ rfl (by decide)) <|
  Chain.cons (stepAt_unary 4445 _ _ _ rfl (by decide)) <|
  Chain.cons (stepAt_binary 4446 _ _ _ _ rfl (by decide) (by decide)) <|
  Chain.cons (stepAt_nullary 4447 _ _ rfl) <|
  Chain.cons (stepAt_unary 4448 _ _ _ rfl (by decide)) <|
  Chain.cons (stepAt_binary 4449 _ _ _ _ rfl (by decide) (by decide)) <|
  Chain.cons (stepAt_nullary 4450 _ _ rfl) <|
  Chain.cons (stepAt_nullary 4451 _ _ rfl) <|
  Chain.cons (stepAt_unary 4452 _ _ _ rfl (by decide)) <|
  Chain.cons (stepAt_unary 4453 _ _ _ rfl (by decide)) <|
  Chain.cons (stepAt_binary 4454 _ _ _ _ rfl (by decide) (by decide)) <|
  Chain.cons (stepAt_unary 4455 _ _ _ rfl (by decide)) <|
  Chain.cons (stepAt_unary 4456 _ _ _ rfl (by decide)) <|
  Chain.cons (stepAt_binary 4457 _ _ _ _ rfl (by decide) (by decide)) <|
  Chain.cons (stepAt_nullary 4458 _ _ rfl) <|
  Chain.cons (stepAt_unary 4459 _ _ _ rfl (by decide)) <|
  Chain.cons (stepAt_binary 4460 _ _ _ _ rfl (by decide) (by decide)) <|
  Chain.cons (stepAt_nullary 4461 _ _ rfl) <|
  Chain.cons (stepAt_unary 4462 _ _ _ rfl (by decide)) <|
  Chain.cons (stepAt_binary 4463 _ _ _ _ rfl (by decide) (by decide)) <|
  Chain.cons (stepAt_ternary 4464 _ _ _ _ _ rfl (by decide) (by decide) (by decide)) <|
  Chain.cons (stepAt_nullary 4465 _ _ rfl) <|
  Chain.cons (stepAt_unary 4466 _ _ _ rfl (by decide)) <|
  Chain.cons (stepAt_binary 4467 _ _ _ _ rfl (by decide) (by decide)) <|
  Chain.nil
theorem w65_length : (w65 : List (HloOp τ sig (Elt F))).length = 80 := rfl

/-- Window 66 of @main: 60 operations, writing buffers 4468 … 4527. -/
abbrev w66 : List (HloOp τ sig (Elt F)) :=
  [ StableHlo.nullary main_c_919 (constantI S_ 32 512#32),
    StableHlo.unary main_c_919 main_v3039 (broadcastInDim S131072 ![] bcast_S_S131072 : (⟨S_, .i32⟩ : BufTy).Contents (Elt F) → (⟨S131072, .i32⟩ : BufTy).Contents (Elt F)),
    StableHlo.binary main_v3023 main_v3039 main_v3040 (addi : (⟨S131072, .i32⟩ : BufTy).Contents (Elt F) → (⟨S131072, .i32⟩ : BufTy).Contents (Elt F) → (⟨S131072, .i32⟩ : BufTy).Contents (Elt F)),
    StableHlo.ternary main_v3038 main_v3040 main_v3023 main_v3041 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v3036 main_v3042 (broadcastInDim S131072x1 ![0] bcast_S131072_S131072x1_0 : (⟨S131072, .i32⟩ : BufTy).Contents (Elt F) → (⟨S131072x1, .i32⟩ : BufTy).Contents (Elt F)),
    StableHlo.unary main_v3041 main_v3043 (broadcastInDim S131072x1 ![0] bcast_S131072_S131072x1_0 : (⟨S131072, .i32⟩ : BufTy).Contents (Elt F) → (⟨S131072x1, .i32⟩ : BufTy).Contents (Elt F)),
    StableHlo.binary main_v3042 main_v3043 main_v3044 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg25 main_v3044 main_v3045 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_920 (constantI S_ 32 0#32),
    StableHlo.unary main_c_920 main_v3046 (broadcastInDim S131072 ![] bcast_S_S131072 : (⟨S_, .i32⟩ : BufTy).Contents (Elt F) → (⟨S131072, .i32⟩ : BufTy).Contents (Elt F)),
    StableHlo.binary main_v3028 main_v3046 main_v3047 (cmpi .slt : (⟨S131072, .i32⟩ : BufTy).Contents (Elt F) → (⟨S131072, .i32⟩ : BufTy).Contents (Elt F) → (⟨S131072, .i1⟩ : BufTy).Contents (Elt F)),
    StableHlo.nullary main_c_921 (constantI S_ 32 150#32),
    StableHlo.unary main_c_921 main_v3048 (broadcastInDim S131072 ![] bcast_S_S131072 : (⟨S_, .i32⟩ : BufTy).Contents (Elt F) → (⟨S131072, .i32⟩ : BufTy).Contents (Elt F)),
    StableHlo.binary main_v3028 main_v3048 main_v3049 (addi : (⟨S131072, .i32⟩ : BufTy).Contents (Elt F) → (⟨S131072, .i32⟩ : BufTy).Contents (Elt F) → (⟨S131072, .i32⟩ : BufTy).Contents (Elt F)),
    StableHlo.ternary main_v3047 main_v3049 main_v3028 main_v3050 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_922 (constantI S_ 32 0#32),
    StableHlo.unary main_c_922 main_v3051 (broadcastInDim S131072 ![] bcast_S_S131072 : (⟨S_, .i32⟩ : BufTy).Contents (Elt F) → (⟨S131072, .i32⟩ : BufTy).Contents (Elt F)),
    StableHlo.binary main_v3026 main_v3051 main_v3052 (cmpi .slt : (⟨S131072, .i32⟩ : BufTy).Contents (Elt F) → (⟨S131072, .i32⟩ : BufTy).Contents (Elt F) → (⟨S131072, .i1⟩ : BufTy).Contents (Elt F)),
    StableHlo.nullary main_c_923 (constantI S_ 32 512#32),
    StableHlo.unary main_c_923 main_v3053 (broadcastInDim S131072 ![] bcast_S_S131072 : (⟨S_, .i32⟩ : BufTy).Contents (Elt F) → (⟨S131072, .i32⟩ : BufTy).Contents (Elt F)),
    StableHlo.binary main_v3026 main_v3053 main_v3054 (addi : (⟨S131072, .i32⟩ : BufTy).Contents (Elt F) → (⟨S131072, .i32⟩ : BufTy).Contents (Elt F) → (⟨S131072, .i32⟩ : BufTy).Contents (Elt F)),
    StableHlo.ternary main_v3052 main_v3054 main_v3026 main_v3055 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v3050 main_v3056 (broadcastInDim S131072x1 ![0] bcast_S131072_S131072x1_0 : (⟨S131072, .i32⟩ : BufTy).Contents (Elt F) → (⟨S131072x1, .i32⟩ : BufTy).Contents (Elt F)),
    StableHlo.unary main_v3055 main_v3057 (broadcastInDim S131072x1 ![0] bcast_S131072_S131072x1_0 : (⟨S131072, .i32⟩ : BufTy).Contents (Elt F) → (⟨S131072x1, .i32⟩ : BufTy).Contents (Elt F)),
    StableHlo.binary main_v3056 main_v3057 main_v3058 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg25 main_v3058 main_v3059 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_924 (constantI S_ 32 0#32),
    StableHlo.unary main_c_924 main_v3060 (broadcastInDim S131072 ![] bcast_S_S131072 : (⟨S_, .i32⟩ : BufTy).Contents (Elt F) → (⟨S131072, .i32⟩ : BufTy).Contents (Elt F)),
    StableHlo.binary main_v3031 main_v3060 main_v3061 (cmpi .slt : (⟨S131072, .i32⟩ : BufTy).Contents (Elt F) → (⟨S131072, .i32⟩ : BufTy).Contents (Elt F) → (⟨S131072, .i1⟩ : BufTy).Contents (Elt F)),
    StableHlo.nullary main_c_925 (constantI S_ 32 150#32),
    StableHlo.unary main_c_925 main_v3062 (broadcastInDim S131072 ![] bcast_S_S131072 : (⟨S_, .i32⟩ : BufTy).Contents (Elt F) → (⟨S131072, .i32⟩ : BufTy).Contents (Elt F)),
    StableHlo.binary main_v3031 main_v3062 main_v3063 (addi : (⟨S131072, .i32⟩ : BufTy).Contents (Elt F) → (⟨S131072, .i32⟩ : BufTy).Contents (Elt F) → (⟨S131072, .i32⟩ : BufTy).Contents (Elt F)),
    StableHlo.ternary main_v3061 main_v3063 main_v3031 main_v3064 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_926 (constantI S_ 32 0#32),
    StableHlo.unary main_c_926 main_v3065 (broadcastInDim S131072 ![] bcast_S_S131072 : (⟨S_, .i32⟩ : BufTy).Contents (Elt F) → (⟨S131072, .i32⟩ : BufTy).Contents (Elt F)),
    StableHlo.binary main_v3023 main_v3065 main_v3066 (cmpi .slt : (⟨S131072, .i32⟩ : BufTy).Contents (Elt F) → (⟨S131072, .i32⟩ : BufTy).Contents (Elt F) → (⟨S131072, .i1⟩ : BufTy).Contents (Elt F)),
    StableHlo.nullary main_c_927 (constantI S_ 32 512#32),
    StableHlo.unary main_c_927 main_v3067 (broadcastInDim S131072 ![] bcast_S_S131072 : (⟨S_, .i32⟩ : BufTy).Contents (Elt F) → (⟨S131072, .i32⟩ : BufTy).Contents (Elt F)),
    StableHlo.binary main_v3023 main_v3067 main_v3068 (addi : (⟨S131072, .i32⟩ : BufTy).Contents (Elt F) → (⟨S131072, .i32⟩ : BufTy).Contents (Elt F) → (⟨S131072, .i32⟩ : BufTy).Contents (Elt F)),
    StableHlo.ternary main_v3066 main_v3068 main_v3023 main_v3069 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v3064 main_v3070 (broadcastInDim S131072x1 ![0] bcast_S131072_S131072x1_0 : (⟨S131072, .i32⟩ : BufTy).Contents (Elt F) → (⟨S131072x1, .i32⟩ : BufTy).Contents (Elt F)),
    StableHlo.unary main_v3069 main_v3071 (broadcastInDim S131072x1 ![0] bcast_S131072_S131072x1_0 : (⟨S131072, .i32⟩ : BufTy).Contents (Elt F) → (⟨S131072x1, .i32⟩ : BufTy).Contents (Elt F)),
    StableHlo.binary main_v3070 main_v3071 main_v3072 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg25 main_v3072 main_v3073 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_c_928 (constantI S_ 32 0#32),
    StableHlo.unary main_c_928 main_v3074 (broadcastInDim S131072 ![] bcast_S_S131072 : (⟨S_, .i32⟩ : BufTy).Contents (Elt F) → (⟨S131072, .i32⟩ : BufTy).Contents (Elt F)),
    StableHlo.binary main_v3031 main_v3074 main_v3075 (cmpi .slt : (⟨S131072, .i32⟩ : BufTy).Contents (Elt F) → (⟨S131072, .i32⟩ : BufTy).Contents (Elt F) → (⟨S131072, .i1⟩ : BufTy).Contents (Elt F)),
    StableHlo.nullary main_c_929 (constantI S_ 32 150#32),
    StableHlo.unary main_c_929 main_v3076 (broadcastInDim S131072 ![] bcast_S_S131072 : (⟨S_, .i32⟩ : BufTy).Contents (Elt F) → (⟨S131072, .i32⟩ : BufTy).Contents (Elt F)),
    StableHlo.binary main_v3031 main_v3076 main_v3077 (addi : (⟨S131072, .i32⟩ : BufTy).Contents (Elt F) → (⟨S131072, .i32⟩ : BufTy).Contents (Elt F) → (⟨S131072, .i32⟩ : BufTy).Contents (Elt F)),
    StableHlo.ternary main_v3075 main_v3077 main_v3031 main_v3078 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_930 (constantI S_ 32 0#32),
    StableHlo.unary main_c_930 main_v3079 (broadcastInDim S131072 ![] bcast_S_S131072 : (⟨S_, .i32⟩ : BufTy).Contents (Elt F) → (⟨S131072, .i32⟩ : BufTy).Contents (Elt F)),
    StableHlo.binary main_v3026 main_v3079 main_v3080 (cmpi .slt : (⟨S131072, .i32⟩ : BufTy).Contents (Elt F) → (⟨S131072, .i32⟩ : BufTy).Contents (Elt F) → (⟨S131072, .i1⟩ : BufTy).Contents (Elt F)),
    StableHlo.nullary main_c_931 (constantI S_ 32 512#32),
    StableHlo.unary main_c_931 main_v3081 (broadcastInDim S131072 ![] bcast_S_S131072 : (⟨S_, .i32⟩ : BufTy).Contents (Elt F) → (⟨S131072, .i32⟩ : BufTy).Contents (Elt F)),
    StableHlo.binary main_v3026 main_v3081 main_v3082 (addi : (⟨S131072, .i32⟩ : BufTy).Contents (Elt F) → (⟨S131072, .i32⟩ : BufTy).Contents (Elt F) → (⟨S131072, .i32⟩ : BufTy).Contents (Elt F)),
    StableHlo.ternary main_v3080 main_v3082 main_v3026 main_v3083 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v3078 main_v3084 (broadcastInDim S131072x1 ![0] bcast_S131072_S131072x1_0 : (⟨S131072, .i32⟩ : BufTy).Contents (Elt F) → (⟨S131072x1, .i32⟩ : BufTy).Contents (Elt F)),
    StableHlo.unary main_v3083 main_v3085 (broadcastInDim S131072x1 ![0] bcast_S131072_S131072x1_0 : (⟨S131072, .i32⟩ : BufTy).Contents (Elt F) → (⟨S131072x1, .i32⟩ : BufTy).Contents (Elt F)) ]
theorem w66_eq (c : Dev nD) : main_part66 (F := F) c = seq w66 := rfl
theorem w66_sub : (w66 : List (HloOp τ sig (Elt F))).Forall fun op => op.bufs ⊆ tcRefs τ sig :=
  ⟨nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem w66_fresh : (w66 : List (HloOp τ sig (Elt F))).Forall fun op => op.fresh = ∅ := by
  simp only [List.Forall]; repeat' constructor
set_option maxHeartbeats 4000000 in
theorem w66_chain : Chain 4468 (w66 : List (HloOp τ sig (Elt F))) :=
  Chain.cons (stepAt_nullary 4468 _ _ rfl) <|
  Chain.cons (stepAt_unary 4469 _ _ _ rfl (by decide)) <|
  Chain.cons (stepAt_binary 4470 _ _ _ _ rfl (by decide) (by decide)) <|
  Chain.cons (stepAt_ternary 4471 _ _ _ _ _ rfl (by decide) (by decide) (by decide)) <|
  Chain.cons (stepAt_unary 4472 _ _ _ rfl (by decide)) <|
  Chain.cons (stepAt_unary 4473 _ _ _ rfl (by decide)) <|
  Chain.cons (stepAt_binary 4474 _ _ _ _ rfl (by decide) (by decide)) <|
  Chain.cons (stepAt_binary 4475 _ _ _ _ rfl (by decide) (by decide)) <|
  Chain.cons (stepAt_nullary 4476 _ _ rfl) <|
  Chain.cons (stepAt_unary 4477 _ _ _ rfl (by decide)) <|
  Chain.cons (stepAt_binary 4478 _ _ _ _ rfl (by decide) (by decide)) <|
  Chain.cons (stepAt_nullary 4479 _ _ rfl) <|
  Chain.cons (stepAt_unary 4480 _ _ _ rfl (by decide)) <|
  Chain.cons (stepAt_binary 4481 _ _ _ _ rfl (by decide) (by decide)) <|
  Chain.cons (stepAt_ternary 4482 _ _ _ _ _ rfl (by decide) (by decide) (by decide)) <|
  Chain.cons (stepAt_nullary 4483 _ _ rfl) <|
  Chain.cons (stepAt_unary 4484 _ _ _ rfl (by decide)) <|
  Chain.cons (stepAt_binary 4485 _ _ _ _ rfl (by decide) (by decide)) <|
  Chain.cons (stepAt_nullary 4486 _ _ rfl) <|
  Chain.cons (stepAt_unary 4487 _ _ _ rfl (by decide)) <|
  Chain.cons (stepAt_binary 4488 _ _ _ _ rfl (by decide) (by decide)) <|
  Chain.cons (stepAt_ternary 4489 _ _ _ _ _ rfl (by decide) (by decide) (by decide)) <|
  Chain.cons (stepAt_unary 4490 _ _ _ rfl (by decide)) <|
  Chain.cons (stepAt_unary 4491 _ _ _ rfl (by decide)) <|
  Chain.cons (stepAt_binary 4492 _ _ _ _ rfl (by decide) (by decide)) <|
  Chain.cons (stepAt_binary 4493 _ _ _ _ rfl (by decide) (by decide)) <|
  Chain.cons (stepAt_nullary 4494 _ _ rfl) <|
  Chain.cons (stepAt_unary 4495 _ _ _ rfl (by decide)) <|
  Chain.cons (stepAt_binary 4496 _ _ _ _ rfl (by decide) (by decide)) <|
  Chain.cons (stepAt_nullary 4497 _ _ rfl) <|
  Chain.cons (stepAt_unary 4498 _ _ _ rfl (by decide)) <|
  Chain.cons (stepAt_binary 4499 _ _ _ _ rfl (by decide) (by decide)) <|
  Chain.cons (stepAt_ternary 4500 _ _ _ _ _ rfl (by decide) (by decide) (by decide)) <|
  Chain.cons (stepAt_nullary 4501 _ _ rfl) <|
  Chain.cons (stepAt_unary 4502 _ _ _ rfl (by decide)) <|
  Chain.cons (stepAt_binary 4503 _ _ _ _ rfl (by decide) (by decide)) <|
  Chain.cons (stepAt_nullary 4504 _ _ rfl) <|
  Chain.cons (stepAt_unary 4505 _ _ _ rfl (by decide)) <|
  Chain.cons (stepAt_binary 4506 _ _ _ _ rfl (by decide) (by decide)) <|
  Chain.cons (stepAt_ternary 4507 _ _ _ _ _ rfl (by decide) (by decide) (by decide)) <|
  Chain.cons (stepAt_unary 4508 _ _ _ rfl (by decide)) <|
  Chain.cons (stepAt_unary 4509 _ _ _ rfl (by decide)) <|
  Chain.cons (stepAt_binary 4510 _ _ _ _ rfl (by decide) (by decide)) <|
  Chain.cons (stepAt_binary 4511 _ _ _ _ rfl (by decide) (by decide)) <|
  Chain.cons (stepAt_nullary 4512 _ _ rfl) <|
  Chain.cons (stepAt_unary 4513 _ _ _ rfl (by decide)) <|
  Chain.cons (stepAt_binary 4514 _ _ _ _ rfl (by decide) (by decide)) <|
  Chain.cons (stepAt_nullary 4515 _ _ rfl) <|
  Chain.cons (stepAt_unary 4516 _ _ _ rfl (by decide)) <|
  Chain.cons (stepAt_binary 4517 _ _ _ _ rfl (by decide) (by decide)) <|
  Chain.cons (stepAt_ternary 4518 _ _ _ _ _ rfl (by decide) (by decide) (by decide)) <|
  Chain.cons (stepAt_nullary 4519 _ _ rfl) <|
  Chain.cons (stepAt_unary 4520 _ _ _ rfl (by decide)) <|
  Chain.cons (stepAt_binary 4521 _ _ _ _ rfl (by decide) (by decide)) <|
  Chain.cons (stepAt_nullary 4522 _ _ rfl) <|
  Chain.cons (stepAt_unary 4523 _ _ _ rfl (by decide)) <|
  Chain.cons (stepAt_binary 4524 _ _ _ _ rfl (by decide) (by decide)) <|
  Chain.cons (stepAt_ternary 4525 _ _ _ _ _ rfl (by decide) (by decide) (by decide)) <|
  Chain.cons (stepAt_unary 4526 _ _ _ rfl (by decide)) <|
  Chain.cons (stepAt_unary 4527 _ _ _ rfl (by decide)) <|
  Chain.nil
theorem w66_length : (w66 : List (HloOp τ sig (Elt F))).length = 60 := rfl

/-- Window 67 of @main: 53 operations, writing buffers 4528 … 4580. -/
abbrev w67 : List (HloOp τ sig (Elt F)) :=
  [ StableHlo.binary main_v3084 main_v3085 main_v3086 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_arg25 main_v3086 main_v3087 ((fun x i => Host.gather gather_S32x150x512_S131072x2_S32x131072_0_12_n_n_12_1_3211 x i) : (⟨S32x150x512, .f32⟩ : BufTy).Contents (Elt F) → (⟨S131072x2, .i32⟩ : BufTy).Contents (Elt F) → (⟨S32x131072, .f32⟩ : BufTy).Contents (Elt F)),
    StableHlo.nullary main_cst_932 (constant S_ .f32 0x3F800000#32),
    StableHlo.unary main_cst_932 main_v3088 (broadcastInDim S131072 ![] bcast_S_S131072 : (⟨S_, .f32⟩ : BufTy).Contents (Elt F) → (⟨S131072, .f32⟩ : BufTy).Contents (Elt F)),
    StableHlo.binary main_v3088 main_v3020 main_v3089 (subf : (⟨S131072, .f32⟩ : BufTy).Contents (Elt F) → (⟨S131072, .f32⟩ : BufTy).Contents (Elt F) → (⟨S131072, .f32⟩ : BufTy).Contents (Elt F)),
    StableHlo.unary main_v3089 main_v3090 (broadcastInDim S1x131072 ![1] bcast_S131072_S1x131072_1 : (⟨S131072, .f32⟩ : BufTy).Contents (Elt F) → (⟨S1x131072, .f32⟩ : BufTy).Contents (Elt F)),
    StableHlo.unary main_v3090 main_v3091 (broadcastInDim S32x131072 ![0, 1] bcast_S1x131072_S32x131072_0_1 : (⟨S1x131072, .f32⟩ : BufTy).Contents (Elt F) → (⟨S32x131072, .f32⟩ : BufTy).Contents (Elt F)),
    StableHlo.binary main_v3045 main_v3091 main_v3092 (mulf : (⟨S32x131072, .f32⟩ : BufTy).Contents (Elt F) → (⟨S32x131072, .f32⟩ : BufTy).Contents (Elt F) → (⟨S32x131072, .f32⟩ : BufTy).Contents (Elt F)),
    StableHlo.nullary main_cst_933 (constant S_ .f32 0x3F800000#32),
    StableHlo.unary main_cst_933 main_v3093 (broadcastInDim S131072 ![] bcast_S_S131072 : (⟨S_, .f32⟩ : BufTy).Contents (Elt F) → (⟨S131072, .f32⟩ : BufTy).Contents (Elt F)),
    StableHlo.binary main_v3093 main_v3021 main_v3094 (subf : (⟨S131072, .f32⟩ : BufTy).Contents (Elt F) → (⟨S131072, .f32⟩ : BufTy).Contents (Elt F) → (⟨S131072, .f32⟩ : BufTy).Contents (Elt F)),
    StableHlo.unary main_v3094 main_v3095 (broadcastInDim S1x131072 ![1] bcast_S131072_S1x131072_1 : (⟨S131072, .f32⟩ : BufTy).Contents (Elt F) → (⟨S1x131072, .f32⟩ : BufTy).Contents (Elt F)),
    StableHlo.unary main_v3095 main_v3096 (broadcastInDim S32x131072 ![0, 1] bcast_S1x131072_S32x131072_0_1 : (⟨S1x131072, .f32⟩ : BufTy).Contents (Elt F) → (⟨S32x131072, .f32⟩ : BufTy).Contents (Elt F)),
    StableHlo.binary main_v3092 main_v3096 main_v3097 (mulf : (⟨S32x131072, .f32⟩ : BufTy).Contents (Elt F) → (⟨S32x131072, .f32⟩ : BufTy).Contents (Elt F) → (⟨S32x131072, .f32⟩ : BufTy).Contents (Elt F)),
    StableHlo.unary main_v3020 main_v3098 (broadcastInDim S1x131072 ![1] bcast_S131072_S1x131072_1 : (⟨S131072, .f32⟩ : BufTy).Contents (Elt F) → (⟨S1x131072, .f32⟩ : BufTy).Contents (Elt F)),
    StableHlo.unary main_v3098 main_v3099 (broadcastInDim S32x131072 ![0, 1] bcast_S1x131072_S32x131072_0_1 : (⟨S1x131072, .f32⟩ : BufTy).Contents (Elt F) → (⟨S32x131072, .f32⟩ : BufTy).Contents (Elt F)),
    StableHlo.binary main_v3059 main_v3099 main_v3100 (mulf : (⟨S32x131072, .f32⟩ : BufTy).Contents (Elt F) → (⟨S32x131072, .f32⟩ : BufTy).Contents (Elt F) → (⟨S32x131072, .f32⟩ : BufTy).Contents (Elt F)),
    StableHlo.nullary main_cst_934 (constant S_ .f32 0x3F800000#32),
    StableHlo.unary main_cst_934 main_v3101 (broadcastInDim S131072 ![] bcast_S_S131072 : (⟨S_, .f32⟩ : BufTy).Contents (Elt F) → (⟨S131072, .f32⟩ : BufTy).Contents (Elt F)),
    StableHlo.binary main_v3101 main_v3021 main_v3102 (subf : (⟨S131072, .f32⟩ : BufTy).Contents (Elt F) → (⟨S131072, .f32⟩ : BufTy).Contents (Elt F) → (⟨S131072, .f32⟩ : BufTy).Contents (Elt F)),
    StableHlo.unary main_v3102 main_v3103 (broadcastInDim S1x131072 ![1] bcast_S131072_S1x131072_1 : (⟨S131072, .f32⟩ : BufTy).Contents (Elt F) → (⟨S1x131072, .f32⟩ : BufTy).Contents (Elt F)),
    StableHlo.unary main_v3103 main_v3104 (broadcastInDim S32x131072 ![0, 1] bcast_S1x131072_S32x131072_0_1 : (⟨S1x131072, .f32⟩ : BufTy).Contents (Elt F) → (⟨S32x131072, .f32⟩ : BufTy).Contents (Elt F)),
    StableHlo.binary main_v3100 main_v3104 main_v3105 (mulf : (⟨S32x131072, .f32⟩ : BufTy).Contents (Elt F) → (⟨S32x131072, .f32⟩ : BufTy).Contents (Elt F) → (⟨S32x131072, .f32⟩ : BufTy).Contents (Elt F)),
    StableHlo.binary main_v3097 main_v3105 main_v3106 (addf : (⟨S32x131072, .f32⟩ : BufTy).Contents (Elt F) → (⟨S32x131072, .f32⟩ : BufTy).Contents (Elt F) → (⟨S32x131072, .f32⟩ : BufTy).Contents (Elt F)),
    StableHlo.nullary main_cst_935 (constant S_ .f32 0x3F800000#32),
    StableHlo.unary main_cst_935 main_v3107 (broadcastInDim S131072 ![] bcast_S_S131072 : (⟨S_, .f32⟩ : BufTy).Contents (Elt F) → (⟨S131072, .f32⟩ : BufTy).Contents (Elt F)),
    StableHlo.binary main_v3107 main_v3020 main_v3108 (subf : (⟨S131072, .f32⟩ : BufTy).Contents (Elt F) → (⟨S131072, .f32⟩ : BufTy).Contents (Elt F) → (⟨S131072, .f32⟩ : BufTy).Contents (Elt F)),
    StableHlo.unary main_v3108 main_v3109 (broadcastInDim S1x131072 ![1] bcast_S131072_S1x131072_1 : (⟨S131072, .f32⟩ : BufTy).Contents (Elt F) → (⟨S1x131072, .f32⟩ : BufTy).Contents (Elt F)),
    StableHlo.unary main_v3109 main_v3110 (broadcastInDim S32x131072 ![0, 1] bcast_S1x131072_S32x131072_0_1 : (⟨S1x131072, .f32⟩ : BufTy).Contents (Elt F) → (⟨S32x131072, .f32⟩ : BufTy).Contents (Elt F)),
    StableHlo.binary main_v3073 main_v3110 main_v3111 (mulf : (⟨S32x131072, .f32⟩ : BufTy).Contents (Elt F) → (⟨S32x131072, .f32⟩ : BufTy).Contents (Elt F) → (⟨S32x131072, .f32⟩ : BufTy).Contents (Elt F)),
    StableHlo.unary main_v3021 main_v3112 (broadcastInDim S1x131072 ![1] bcast_S131072_S1x131072_1 : (⟨S131072, .f32⟩ : BufTy).Contents (Elt F) → (⟨S1x131072, .f32⟩ : BufTy).Contents (Elt F)),
    StableHlo.unary main_v3112 main_v3113 (broadcastInDim S32x131072 ![0, 1] bcast_S1x131072_S32x131072_0_1 : (⟨S1x131072, .f32⟩ : BufTy).Contents (Elt F) → (⟨S32x131072, .f32⟩ : BufTy).Contents (Elt F)),
    StableHlo.binary main_v3111 main_v3113 main_v3114 (mulf : (⟨S32x131072, .f32⟩ : BufTy).Contents (Elt F) → (⟨S32x131072, .f32⟩ : BufTy).Contents (Elt F) → (⟨S32x131072, .f32⟩ : BufTy).Contents (Elt F)),
    StableHlo.binary main_v3106 main_v3114 main_v3115 (addf : (⟨S32x131072, .f32⟩ : BufTy).Contents (Elt F) → (⟨S32x131072, .f32⟩ : BufTy).Contents (Elt F) → (⟨S32x131072, .f32⟩ : BufTy).Contents (Elt F)),
    StableHlo.unary main_v3020 main_v3116 (broadcastInDim S1x131072 ![1] bcast_S131072_S1x131072_1 : (⟨S131072, .f32⟩ : BufTy).Contents (Elt F) → (⟨S1x131072, .f32⟩ : BufTy).Contents (Elt F)),
    StableHlo.unary main_v3116 main_v3117 (broadcastInDim S32x131072 ![0, 1] bcast_S1x131072_S32x131072_0_1 : (⟨S1x131072, .f32⟩ : BufTy).Contents (Elt F) → (⟨S32x131072, .f32⟩ : BufTy).Contents (Elt F)),
    StableHlo.binary main_v3087 main_v3117 main_v3118 (mulf : (⟨S32x131072, .f32⟩ : BufTy).Contents (Elt F) → (⟨S32x131072, .f32⟩ : BufTy).Contents (Elt F) → (⟨S32x131072, .f32⟩ : BufTy).Contents (Elt F)),
    StableHlo.unary main_v3021 main_v3119 (broadcastInDim S1x131072 ![1] bcast_S131072_S1x131072_1 : (⟨S131072, .f32⟩ : BufTy).Contents (Elt F) → (⟨S1x131072, .f32⟩ : BufTy).Contents (Elt F)),
    StableHlo.unary main_v3119 main_v3120 (broadcastInDim S32x131072 ![0, 1] bcast_S1x131072_S32x131072_0_1 : (⟨S1x131072, .f32⟩ : BufTy).Contents (Elt F) → (⟨S32x131072, .f32⟩ : BufTy).Contents (Elt F)),
    StableHlo.binary main_v3118 main_v3120 main_v3121 (mulf : (⟨S32x131072, .f32⟩ : BufTy).Contents (Elt F) → (⟨S32x131072, .f32⟩ : BufTy).Contents (Elt F) → (⟨S32x131072, .f32⟩ : BufTy).Contents (Elt F)),
    StableHlo.binary main_v3115 main_v3121 main_v3122 (addf : (⟨S32x131072, .f32⟩ : BufTy).Contents (Elt F) → (⟨S32x131072, .f32⟩ : BufTy).Contents (Elt F) → (⟨S32x131072, .f32⟩ : BufTy).Contents (Elt F)),
    StableHlo.unary main_v3122 main_v3123 ((transpose S131072x32 [1, 0] · transposes_S32x131072_S131072x32_1_0) : (⟨S32x131072, .f32⟩ : BufTy).Contents (Elt F) → (⟨S131072x32, .f32⟩ : BufTy).Contents (Elt F)),
    StableHlo.binary main_v2994 main_v3123 main_v3124 (mulf : (⟨S131072x32, .f32⟩ : BufTy).Contents (Elt F) → (⟨S131072x32, .f32⟩ : BufTy).Contents (Elt F) → (⟨S131072x32, .f32⟩ : BufTy).Contents (Elt F)),
    StableHlo.nary ![main_v787, main_v1566, main_v2345, main_v3124] main_v3125 (fun u => concatenate S131072x128 1 [⟨S131072x32, u 0⟩, ⟨S131072x32, u 1⟩, ⟨S131072x32, u 2⟩, ⟨S131072x32, u 3⟩] concatenates_S131072x32_S131072x32_S131072x32_S131072x32_S131072x128_d1),
    StableHlo.binary main_v3125 main_arg26 main_v3126 ((fun l r => Host.dotGeneral dot_S131072x128_S128x64_S131072x64_1_0_0_1_n_n none l r) : (⟨S131072x128, .f32⟩ : BufTy).Contents (Elt F) → (⟨S128x64, .f32⟩ : BufTy).Contents (Elt F) → (⟨S131072x64, .f32⟩ : BufTy).Contents (Elt F)),
    StableHlo.TRef.nullary main_call96.cst (constant S_ .f32 0x00000000#32),
    StableHlo.TRef.unary main_call96.cst main_call96.v0 (broadcastInDim S131072x64 ![] bcast_S_S131072x64),
    StableHlo.TRef.binary (.of main_v3126) main_call96.v0 main_call96.v1 maximumf,
    StableHlo.binary main_v3127 main_arg27 main_v3128 ((fun l r => Host.dotGeneral dot_S131072x64_S64x16_S131072x16_1_0_0_1_n_n none l r) : (⟨S131072x64, .f32⟩ : BufTy).Contents (Elt F) → (⟨S64x16, .f32⟩ : BufTy).Contents (Elt F) → (⟨S131072x16, .f32⟩ : BufTy).Contents (Elt F)),
    StableHlo.unary main_v3128 main_v3129 ((extractStridedSlice S131072x15 ![0, 0] · slices_S131072x16_S131072x15_0_0) : (⟨S131072x16, .f32⟩ : BufTy).Contents (Elt F) → (⟨S131072x15, .f32⟩ : BufTy).Contents (Elt F)),
    StableHlo.unary main_v3128 main_v3130 ((extractStridedSlice S131072x1 ![0, 15] · slices_S131072x16_S131072x1_0_15) : (⟨S131072x16, .f32⟩ : BufTy).Contents (Elt F) → (⟨S131072x1, .f32⟩ : BufTy).Contents (Elt F)),
    StableHlo.unary main_v3130 main_v3131 (Host.exp : (⟨S131072x1, .f32⟩ : BufTy).Contents (Elt F) → (⟨S131072x1, .f32⟩ : BufTy).Contents (Elt F)),
    StableHlo.binary main_v3131 main_v3129 main_v3132 ((fun a b => concatenate S131072x16 1 [⟨S131072x1, a⟩, ⟨S131072x15, b⟩] concatenates_S131072x1_S131072x15_S131072x16_d1) : (⟨S131072x1, .f32⟩ : BufTy).Contents (Elt F) → (⟨S131072x15, .f32⟩ : BufTy).Contents (Elt F) → (⟨S131072x16, .f32⟩ : BufTy).Contents (Elt F)) ]
theorem w67_eq (c : Dev nD) : main_part67 (F := F) c = seq w67 := rfl
theorem w67_sub : (w67 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., binary_bufs_sub .., nary_bufs_sub .., binary_bufs_sub .., nullary_bufs_sub .., unary_bufs_sub .., binary_bufs_sub .., binary_bufs_sub .., unary_bufs_sub .., unary_bufs_sub .., unary_bufs_sub .., binary_bufs_sub ..⟩
theorem w67_fresh : (w67 : List (HloOp τ sig (Elt F))).Forall fun op => op.fresh = ∅ := by
  simp only [List.Forall]; repeat' constructor
set_option maxHeartbeats 4000000 in
theorem w67_chain : Chain 4528 (w67 : List (HloOp τ sig (Elt F))) :=
  Chain.cons (stepAt_binary 4528 _ _ _ _ rfl (by decide) (by decide)) <|
  Chain.cons (stepAt_binary 4529 _ _ _ _ rfl (by decide) (by decide)) <|
  Chain.cons (stepAt_nullary 4530 _ _ rfl) <|
  Chain.cons (stepAt_unary 4531 _ _ _ rfl (by decide)) <|
  Chain.cons (stepAt_binary 4532 _ _ _ _ rfl (by decide) (by decide)) <|
  Chain.cons (stepAt_unary 4533 _ _ _ rfl (by decide)) <|
  Chain.cons (stepAt_unary 4534 _ _ _ rfl (by decide)) <|
  Chain.cons (stepAt_binary 4535 _ _ _ _ rfl (by decide) (by decide)) <|
  Chain.cons (stepAt_nullary 4536 _ _ rfl) <|
  Chain.cons (stepAt_unary 4537 _ _ _ rfl (by decide)) <|
  Chain.cons (stepAt_binary 4538 _ _ _ _ rfl (by decide) (by decide)) <|
  Chain.cons (stepAt_unary 4539 _ _ _ rfl (by decide)) <|
  Chain.cons (stepAt_unary 4540 _ _ _ rfl (by decide)) <|
  Chain.cons (stepAt_binary 4541 _ _ _ _ rfl (by decide) (by decide)) <|
  Chain.cons (stepAt_unary 4542 _ _ _ rfl (by decide)) <|
  Chain.cons (stepAt_unary 4543 _ _ _ rfl (by decide)) <|
  Chain.cons (stepAt_binary 4544 _ _ _ _ rfl (by decide) (by decide)) <|
  Chain.cons (stepAt_nullary 4545 _ _ rfl) <|
  Chain.cons (stepAt_unary 4546 _ _ _ rfl (by decide)) <|
  Chain.cons (stepAt_binary 4547 _ _ _ _ rfl (by decide) (by decide)) <|
  Chain.cons (stepAt_unary 4548 _ _ _ rfl (by decide)) <|
  Chain.cons (stepAt_unary 4549 _ _ _ rfl (by decide)) <|
  Chain.cons (stepAt_binary 4550 _ _ _ _ rfl (by decide) (by decide)) <|
  Chain.cons (stepAt_binary 4551 _ _ _ _ rfl (by decide) (by decide)) <|
  Chain.cons (stepAt_nullary 4552 _ _ rfl) <|
  Chain.cons (stepAt_unary 4553 _ _ _ rfl (by decide)) <|
  Chain.cons (stepAt_binary 4554 _ _ _ _ rfl (by decide) (by decide)) <|
  Chain.cons (stepAt_unary 4555 _ _ _ rfl (by decide)) <|
  Chain.cons (stepAt_unary 4556 _ _ _ rfl (by decide)) <|
  Chain.cons (stepAt_binary 4557 _ _ _ _ rfl (by decide) (by decide)) <|
  Chain.cons (stepAt_unary 4558 _ _ _ rfl (by decide)) <|
  Chain.cons (stepAt_unary 4559 _ _ _ rfl (by decide)) <|
  Chain.cons (stepAt_binary 4560 _ _ _ _ rfl (by decide) (by decide)) <|
  Chain.cons (stepAt_binary 4561 _ _ _ _ rfl (by decide) (by decide)) <|
  Chain.cons (stepAt_unary 4562 _ _ _ rfl (by decide)) <|
  Chain.cons (stepAt_unary 4563 _ _ _ rfl (by decide)) <|
  Chain.cons (stepAt_binary 4564 _ _ _ _ rfl (by decide) (by decide)) <|
  Chain.cons (stepAt_unary 4565 _ _ _ rfl (by decide)) <|
  Chain.cons (stepAt_unary 4566 _ _ _ rfl (by decide)) <|
  Chain.cons (stepAt_binary 4567 _ _ _ _ rfl (by decide) (by decide)) <|
  Chain.cons (stepAt_binary 4568 _ _ _ _ rfl (by decide) (by decide)) <|
  Chain.cons (stepAt_unary 4569 _ _ _ rfl (by decide)) <|
  Chain.cons (stepAt_binary 4570 _ _ _ _ rfl (by decide) (by decide)) <|
  Chain.cons (stepAt_nary 4571 _ _ _ _ rfl (by decide)) <|
  Chain.cons (stepAt_binary 4572 _ _ _ _ rfl (by decide) (by decide)) <|
  Chain.cons (stepAt_nullary 4573 _ _ rfl) <|
  Chain.cons (stepAt_unary 4574 _ _ _ rfl (by decide)) <|
  Chain.cons (stepAt_binary 4575 _ _ _ _ rfl (by decide) (by decide)) <|
  Chain.cons (stepAt_binary 4576 _ _ _ _ rfl (by decide) (by decide)) <|
  Chain.cons (stepAt_unary 4577 _ _ _ rfl (by decide)) <|
  Chain.cons (stepAt_unary 4578 _ _ _ rfl (by decide)) <|
  Chain.cons (stepAt_unary 4579 _ _ _ rfl (by decide)) <|
  Chain.cons (stepAt_binary 4580 _ _ _ _ rfl (by decide) (by decide)) <|
  Chain.nil
theorem w67_length : (w67 : List (HloOp τ sig (Elt F))).length = 53 := rfl

end Cert.ReferenceIdeal.Ops

end
-- ==== Proof.SimB22.lean ====
/- Operations 4149 … 4335 of the one program and 4167 … 4353 of the other apply the same functions to corresponding
   buffers. If both programs' final contents satisfy their own lines' equations and agree on the buffers these operations
   read from outside, they agree on what these operations write: one congruence per operation, in program order. -/
import proofs.«133805_j10187662426200_2_alg».proof.Proof.KIStretch4
import proofs.«133805_j10187662426200_2_alg».proof.Proof.RefOps7
import proofs.«133805_j10187662426200_2_alg».proof.Proof.RefOps8
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B22 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_176 : List (HloOp Cert.KernelIdeal.τ Cert.KernelIdeal.sig (Elt F))).Forall fun op => ∀ b ∈ op.writes, Φ₁ b = op.result Φ₁ b)
    (fa1 : (Cert.KernelIdeal.Gen.hostOps0_177 : List (HloOp Cert.KernelIdeal.τ Cert.KernelIdeal.sig (Elt F))).Forall fun op => ∀ b ∈ op.writes, Φ₁ b = op.result Φ₁ b)
    (fa2 : (Cert.KernelIdeal.Gen.hostOps0_178 : List (HloOp Cert.KernelIdeal.τ Cert.KernelIdeal.sig (Elt F))).Forall fun op => ∀ b ∈ op.writes, Φ₁ b = op.result Φ₁ b)
    (fa3 : (Cert.KernelIdeal.Gen.hostOps0_179 : List (HloOp Cert.KernelIdeal.τ Cert.KernelIdeal.sig (Elt F))).Forall fun op => ∀ b ∈ op.writes, Φ₁ b = op.result Φ₁ b)
    (fa4 : (Cert.KernelIdeal.Gen.hostOps0_180 : List (HloOp Cert.KernelIdeal.τ Cert.KernelIdeal.sig (Elt F))).Forall fun op => ∀ b ∈ op.writes, Φ₁ b = op.result Φ₁ b)
    (fa5 : (Cert.KernelIdeal.Gen.hostOps0_181 : List (HloOp Cert.KernelIdeal.τ Cert.KernelIdeal.sig (Elt F))).Forall fun op => ∀ b ∈ op.writes, Φ₁ b = op.result Φ₁ b)
    (fa6 : (Cert.KernelIdeal.Gen.hostOps0_182 : List (HloOp Cert.KernelIdeal.τ Cert.KernelIdeal.sig (Elt F))).Forall fun op => ∀ b ∈ op.writes, Φ₁ b = op.result Φ₁ b)
    (fa7 : (Cert.KernelIdeal.Gen.hostOps0_183 : List (HloOp Cert.KernelIdeal.τ Cert.KernelIdeal.sig (Elt F))).Forall fun op => ∀ b ∈ op.writes, Φ₁ b = op.result Φ₁ b)
    (fa8 : (Cert.KernelIdeal.Gen.hostOps0_184 : List (HloOp Cert.KernelIdeal.τ Cert.KernelIdeal.sig (Elt F))).Forall fun op => ∀ b ∈ op.writes, Φ₁ b = op.result Φ₁ b)
    (fb0 : (Cert.ReferenceIdeal.Ops.w62 : List (HloOp Cert.ReferenceIdeal.τ Cert.ReferenceIdeal.sig (Elt F))).Forall fun op => ∀ b ∈ op.writes, Φ₂ b = op.result Φ₂ b)
    (fb1 : (Cert.ReferenceIdeal.Ops.w63 : List (HloOp Cert.ReferenceIdeal.τ Cert.ReferenceIdeal.sig (Elt F))).Forall fun op => ∀ b ∈ op.writes, Φ₂ b = op.result Φ₂ b)
    (fb2 : (Cert.ReferenceIdeal.Ops.w64 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_21)) (Φ₂ (Proc.devRef .tc Cert.ReferenceIdeal.main_c_21)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x512, .f32⟩ : BufTy).Contents (Elt F)) (Φ₁ (Proc.devRef .tc Cert.KernelIdeal.main_arg24)) (Φ₂ (Proc.devRef .tc Cert.ReferenceIdeal.main_arg24)))
    : @Eq ((⟨Cert.KernelIdeal.S131072x32, .f32⟩ : BufTy).Contents (Elt F)) (Φ₁ (Proc.devRef .tc Cert.KernelIdeal.main_v2975)) (Φ₂ (Proc.devRef .tc Cert.ReferenceIdeal.main_v2993)) := by
  have e0 : @Eq ((⟨Cert.KernelIdeal.S_, .i32⟩ : BufTy).Contents (Elt F)) (Φ₁ (Proc.devRef .tc Cert.KernelIdeal.main_c_860)) (Φ₂ (Proc.devRef .tc Cert.ReferenceIdeal.main_c_860)) := step0 (β := ((⟨Cert.KernelIdeal.S_, .i32⟩ : BufTy).Contents (Elt F))) (eq0 (at_ fa0 (i := 112) rfl) :) (eq0 (at_ fb0 (i := 7) rfl) :)
  have e1 : @Eq ((⟨Cert.KernelIdeal.S2, .i32⟩ : BufTy).Contents (Elt F)) (Φ₁ (Proc.devRef .tc Cert.KernelIdeal.main_v2847)) (Φ₂ (Proc.devRef .tc Cert.ReferenceIdeal.main_v2865)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 8) rfl) :) e0
  have e2 : @Eq ((⟨Cert.KernelIdeal.S2, .i1⟩ : BufTy).Contents (Elt F)) (Φ₁ (Proc.devRef .tc Cert.KernelIdeal.main_v2848)) (Φ₂ (Proc.devRef .tc Cert.ReferenceIdeal.main_v2866)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 9) rfl) :) x0 e1
  have e3 : @Eq ((⟨Cert.KernelIdeal.S_, .i32⟩ : BufTy).Contents (Elt F)) (Φ₁ (Proc.devRef .tc Cert.KernelIdeal.main_c_861)) (Φ₂ (Proc.devRef .tc Cert.ReferenceIdeal.main_c_861)) := step0 (β := ((⟨Cert.KernelIdeal.S_, .i32⟩ : BufTy).Contents (Elt F))) (eq0 (at_ fa0 (i := 115) rfl) :) (eq0 (at_ fb0 (i := 10) rfl) :)
  have e4 : @Eq ((⟨Cert.KernelIdeal.S2, .i32⟩ : BufTy).Contents (Elt F)) (Φ₁ (Proc.devRef .tc Cert.KernelIdeal.main_v2849)) (Φ₂ (Proc.devRef .tc Cert.ReferenceIdeal.main_v2867)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 11) rfl) :) e3
  have e5 : @Eq ((⟨Cert.KernelIdeal.S2, .i32⟩ : BufTy).Contents (Elt F)) (Φ₁ (Proc.devRef .tc Cert.KernelIdeal.main_v2850)) (Φ₂ (Proc.devRef .tc Cert.ReferenceIdeal.main_v2868)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb0 (i := 12) rfl) :) x0 e4
  have e6 : @Eq ((⟨Cert.KernelIdeal.S2, .i32⟩ : BufTy).Contents (Elt F)) (Φ₁ (Proc.devRef .tc Cert.KernelIdeal.main_v2851)) (Φ₂ (Proc.devRef .tc Cert.ReferenceIdeal.main_v2869)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb0 (i := 13) rfl) :) e2 e5 x0
  have e7 : @Eq ((⟨Cert.KernelIdeal.S2x1, .i32⟩ : BufTy).Contents (Elt F)) (Φ₁ (Proc.devRef .tc Cert.KernelIdeal.main_v2852)) (Φ₂ (Proc.devRef .tc Cert.ReferenceIdeal.main_v2870)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb0 (i := 14) rfl) :) e6
  have e8 : @Eq ((⟨Cert.KernelIdeal.S131072x2, .f32⟩ : BufTy).Contents (Elt F)) (Φ₁ (Proc.devRef .tc Cert.KernelIdeal.main_v2853)) (Φ₂ (Proc.devRef .tc Cert.ReferenceIdeal.main_v2871)) := by rw [eq2 (at_ fa0 (i := 120) rfl), eq2 (at_ fb0 (i := 15) rfl), x1, e7] <;> rfl
  have e9 : @Eq ((⟨Cert.KernelIdeal.S131072x1, .f32⟩ : BufTy).Contents (Elt F)) (Φ₁ (Proc.devRef .tc Cert.KernelIdeal.main_v2854)) (Φ₂ (Proc.devRef .tc Cert.ReferenceIdeal.main_v2872)) := by rw [eq1 (at_ fa0 (i := 121) rfl), eq1 (at_ fb0 (i := 16) rfl), e8] <;> rfl
  have e10 : @Eq ((⟨Cert.KernelIdeal.S131072, .f32⟩ : BufTy).Contents (Elt F)) (Φ₁ (Proc.devRef .tc Cert.KernelIdeal.main_v2855)) (Φ₂ (Proc.devRef .tc Cert.ReferenceIdeal.main_v2873)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb0 (i := 17) rfl) :) e9
  have e11 : @Eq ((⟨Cert.KernelIdeal.S_, .f32⟩ : BufTy).Contents (Elt F)) (Φ₁ (Proc.devRef .tc Cert.KernelIdeal.main_cst_862)) (Φ₂ (Proc.devRef .tc Cert.ReferenceIdeal.main_cst_862)) := step0 (β := ((⟨Cert.KernelIdeal.S_, .f32⟩ : BufTy).Contents (Elt F))) (eq0 (at_ fa0 (i := 123) rfl) :) (eq0 (at_ fb0 (i := 18) rfl) :)
  have e12 : @Eq ((⟨Cert.KernelIdeal.S131072, .f32⟩ : BufTy).Contents (Elt F)) (Φ₁ (Proc.devRef .tc Cert.KernelIdeal.main_v2856)) (Φ₂ (Proc.devRef .tc Cert.ReferenceIdeal.main_v2874)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb0 (i := 19) rfl) :) e11
  have e13 : @Eq ((⟨Cert.KernelIdeal.S131072, .f32⟩ : BufTy).Contents (Elt F)) (Φ₁ (Proc.devRef .tc Cert.KernelIdeal.main_v2857)) (Φ₂ (Proc.devRef .tc Cert.ReferenceIdeal.main_v2875)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb0 (i := 20) rfl) :) e10 e12
  have e14 : @Eq ((⟨Cert.KernelIdeal.S_, .f32⟩ : BufTy).Contents (Elt F)) (Φ₁ (Proc.devRef .tc Cert.KernelIdeal.main_cst_863)) (Φ₂ (Proc.devRef .tc Cert.ReferenceIdeal.main_cst_863)) := step0 (β := ((⟨Cert.KernelIdeal.S_, .f32⟩ : BufTy).Contents (Elt F))) (eq0 (at_ fa0 (i := 126) rfl) :) (eq0 (at_ fb0 (i := 21) rfl) :)
  have e15 : @Eq ((⟨Cert.KernelIdeal.S131072, .f32⟩ : BufTy).Contents (Elt F)) (Φ₁ (Proc.devRef .tc Cert.KernelIdeal.main_v2858)) (Φ₂ (Proc.devRef .tc Cert.ReferenceIdeal.main_v2876)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb0 (i := 22) rfl) :) e14
  have e16 : @Eq ((⟨Cert.KernelIdeal.S131072, .f32⟩ : BufTy).Contents (Elt F)) (Φ₁ (Proc.devRef .tc Cert.KernelIdeal.main_v2859)) (Φ₂ (Proc.devRef .tc Cert.ReferenceIdeal.main_v2877)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb0 (i := 23) rfl) :) e13 e15
  have e17 : @Eq ((⟨Cert.KernelIdeal.S_, .f32⟩ : BufTy).Contents (Elt F)) (Φ₁ (Proc.devRef .tc Cert.KernelIdeal.main_cst_864)) (Φ₂ (Proc.devRef .tc Cert.ReferenceIdeal.main_cst_864)) := step0 (β := ((⟨Cert.KernelIdeal.S_, .f32⟩ : BufTy).Contents (Elt F))) (eq0 (at_ fa0 (i := 129) rfl) :) (eq0 (at_ fb0 (i := 24) rfl) :)
  have e18 : @Eq ((⟨Cert.KernelIdeal.S131072, .f32⟩ : BufTy).Contents (Elt F)) (Φ₁ (Proc.devRef .tc Cert.KernelIdeal.main_v2860)) (Φ₂ (Proc.devRef .tc Cert.ReferenceIdeal.main_v2878)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb0 (i := 25) rfl) :) e17
  have e19 : @Eq ((⟨Cert.KernelIdeal.S131072, .f32⟩ : BufTy).Contents (Elt F)) (Φ₁ (Proc.devRef .tc Cert.KernelIdeal.main_v2861)) (Φ₂ (Proc.devRef .tc Cert.ReferenceIdeal.main_v2879)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb0 (i := 26) rfl) :) e16 e18
  have e20 : @Eq ((⟨Cert.KernelIdeal.S131072x1, .f32⟩ : BufTy).Contents (Elt F)) (Φ₁ (Proc.devRef .tc Cert.KernelIdeal.main_v2862)) (Φ₂ (Proc.devRef .tc Cert.ReferenceIdeal.main_v2880)) := by rw [eq1 (at_ fa0 (i := 132) rfl), eq1 (at_ fb0 (i := 27) rfl), e8] <;> rfl
  have e21 : @Eq ((⟨Cert.KernelIdeal.S131072, .f32⟩ : BufTy).Contents (Elt F)) (Φ₁ (Proc.devRef .tc Cert.KernelIdeal.main_v2863)) (Φ₂ (Proc.devRef .tc Cert.ReferenceIdeal.main_v2881)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb0 (i := 28) rfl) :) e20
  have e22 : @Eq ((⟨Cert.KernelIdeal.S_, .f32⟩ : BufTy).Contents (Elt F)) (Φ₁ (Proc.devRef .tc Cert.KernelIdeal.main_cst_865)) (Φ₂ (Proc.devRef .tc Cert.ReferenceIdeal.main_cst_865)) := step0 (β := ((⟨Cert.KernelIdeal.S_, .f32⟩ : BufTy).Contents (Elt F))) (eq0 (at_ fa0 (i := 134) rfl) :) (eq0 (at_ fb0 (i := 29) rfl) :)
  have e23 : @Eq ((⟨Cert.KernelIdeal.S131072, .f32⟩ : BufTy).Contents (Elt F)) (Φ₁ (Proc.devRef .tc Cert.KernelIdeal.main_v2864)) (Φ₂ (Proc.devRef .tc Cert.ReferenceIdeal.main_v2882)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb0 (i := 30) rfl) :) e22
  have e24 : @Eq ((⟨Cert.KernelIdeal.S131072, .f32⟩ : BufTy).Contents (Elt F)) (Φ₁ (Proc.devRef .tc Cert.KernelIdeal.main_v2865)) (Φ₂ (Proc.devRef .tc Cert.ReferenceIdeal.main_v2883)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb0 (i := 31) rfl) :) e21 e23
  have e25 : @Eq ((⟨Cert.KernelIdeal.S_, .f32⟩ : BufTy).Contents (Elt F)) (Φ₁ (Proc.devRef .tc Cert.KernelIdeal.main_cst_866)) (Φ₂ (Proc.devRef .tc Cert.ReferenceIdeal.main_cst_866)) := step0 (β := ((⟨Cert.KernelIdeal.S_, .f32⟩ : BufTy).Contents (Elt F))) (eq0 (at_ fa0 (i := 137) rfl) :) (eq0 (at_ fb0 (i := 32) rfl) :)
  have e26 : @Eq ((⟨Cert.KernelIdeal.S131072, .f32⟩ : BufTy).Contents (Elt F)) (Φ₁ (Proc.devRef .tc Cert.KernelIdeal.main_v2866)) (Φ₂ (Proc.devRef .tc Cert.ReferenceIdeal.main_v2884)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb0 (i := 33) rfl) :) e25
  have e27 : @Eq ((⟨Cert.KernelIdeal.S131072, .f32⟩ : BufTy).Contents (Elt F)) (Φ₁ (Proc.devRef .tc Cert.KernelIdeal.main_v2867)) (Φ₂ (Proc.devRef .tc Cert.ReferenceIdeal.main_v2885)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb0 (i := 34) rfl) :) e24 e26
  have e28 : @Eq ((⟨Cert.KernelIdeal.S_, .f32⟩ : BufTy).Contents (Elt F)) (Φ₁ (Proc.devRef .tc Cert.KernelIdeal.main_cst_867)) (Φ₂ (Proc.devRef .tc Cert.ReferenceIdeal.main_cst_867)) := step0 (β := ((⟨Cert.KernelIdeal.S_, .f32⟩ : BufTy).Contents (Elt F))) (eq0 (at_ fa0 (i := 140) rfl) :) (eq0 (at_ fb0 (i := 35) rfl) :)
  have e29 : @Eq ((⟨Cert.KernelIdeal.S131072, .f32⟩ : BufTy).Contents (Elt F)) (Φ₁ (Proc.devRef .tc Cert.KernelIdeal.main_v2868)) (Φ₂ (Proc.devRef .tc Cert.ReferenceIdeal.main_v2886)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb0 (i := 36) rfl) :) e28
  have e30 : @Eq ((⟨Cert.KernelIdeal.S131072, .f32⟩ : BufTy).Contents (Elt F)) (Φ₁ (Proc.devRef .tc Cert.KernelIdeal.main_v2869)) (Φ₂ (Proc.devRef .tc Cert.ReferenceIdeal.main_v2887)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb0 (i := 37) rfl) :) e27 e29
  have e31 : @Eq ((⟨Cert.KernelIdeal.S131072, .f32⟩ : BufTy).Contents (Elt F)) (Φ₁ (Proc.devRef .tc Cert.KernelIdeal.main_v2870)) (Φ₂ (Proc.devRef .tc Cert.ReferenceIdeal.main_v2888)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb0 (i := 38) rfl) :) e19
  have e32 : @Eq ((⟨Cert.KernelIdeal.S131072, .f32⟩ : BufTy).Contents (Elt F)) (Φ₁ (Proc.devRef .tc Cert.KernelIdeal.main_v2871)) (Φ₂ (Proc.devRef .tc Cert.ReferenceIdeal.main_v2889)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb0 (i := 39) rfl) :) e30
  have e33 : @Eq ((⟨Cert.KernelIdeal.S131072, .f32⟩ : BufTy).Contents (Elt F)) (Φ₁ (Proc.devRef .tc Cert.KernelIdeal.main_v2872)) (Φ₂ (Proc.devRef .tc Cert.ReferenceIdeal.main_v2890)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb0 (i := 40) rfl) :) e19 e31
  have e34 : @Eq ((⟨Cert.KernelIdeal.S131072, .f32⟩ : BufTy).Contents (Elt F)) (Φ₁ (Proc.devRef .tc Cert.KernelIdeal.main_v2873)) (Φ₂ (Proc.devRef .tc Cert.ReferenceIdeal.main_v2891)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb0 (i := 41) rfl) :) e30 e32
  have e35 : @Eq ((⟨Cert.KernelIdeal.S131072, .i32⟩ : BufTy).Contents (Elt F)) (Φ₁ (Proc.devRef .tc Cert.KernelIdeal.main_v2874)) (Φ₂ (Proc.devRef .tc Cert.ReferenceIdeal.main_v2892)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb0 (i := 42) rfl) :) e31
  have e36 : @Eq ((⟨Cert.KernelIdeal.S_, .i32⟩ : BufTy).Contents (Elt F)) (Φ₁ (Proc.devRef .tc Cert.KernelIdeal.main_c_868)) (Φ₂ (Proc.devRef .tc Cert.ReferenceIdeal.main_c_868)) := step0 (β := ((⟨Cert.KernelIdeal.S_, .i32⟩ : BufTy).Contents (Elt F))) (eq0 (at_ fa0 (i := 148) rfl) :) (eq0 (at_ fb0 (i := 43) rfl) :)
  have e37 : @Eq ((⟨Cert.KernelIdeal.S_, .i32⟩ : BufTy).Contents (Elt F)) (Φ₁ (Proc.devRef .tc Cert.KernelIdeal.main_c_869)) (Φ₂ (Proc.devRef .tc Cert.ReferenceIdeal.main_c_869)) := step0 (β := ((⟨Cert.KernelIdeal.S_, .i32⟩ : BufTy).Contents (Elt F))) (eq0 (at_ fa0 (i := 149) rfl) :) (eq0 (at_ fb0 (i := 44) rfl) :)
  have e38 : @Eq ((⟨Cert.KernelIdeal.S_, .i32⟩ : BufTy).Contents (Elt F)) (Φ₁ (Proc.devRef .tc Cert.KernelIdeal.main_call88_v0)) (Φ₂ (Proc.devRef .tc Cert.ReferenceIdeal.main_call88_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb0 (i := 45) rfl) :) e36
  have e39 : @Eq ((⟨Cert.KernelIdeal.S131072, .i32⟩ : BufTy).Contents (Elt F)) (Φ₁ (Proc.devRef .tc Cert.KernelIdeal.main_call88_v1)) (Φ₂ (Proc.devRef .tc Cert.ReferenceIdeal.main_call88_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb0 (i := 46) rfl) :) e38
  have e40 : @Eq ((⟨Cert.KernelIdeal.S131072, .i32⟩ : BufTy).Contents (Elt F)) (Φ₁ (Proc.devRef .tc Cert.KernelIdeal.main_call88_v2)) (Φ₂ (Proc.devRef .tc Cert.ReferenceIdeal.main_call88_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb0 (i := 47) rfl) :) e39 e35
  have e41 : @Eq ((⟨Cert.KernelIdeal.S_, .i32⟩ : BufTy).Contents (Elt F)) (Φ₁ (Proc.devRef .tc Cert.KernelIdeal.main_call88_v3)) (Φ₂ (Proc.devRef .tc Cert.ReferenceIdeal.main_call88_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb0 (i := 48) rfl) :) e37
  have e42 : @Eq ((⟨Cert.KernelIdeal.S131072, .i32⟩ : BufTy).Contents (Elt F)) (Φ₁ (Proc.devRef .tc Cert.KernelIdeal.main_call88_v4)) (Φ₂ (Proc.devRef .tc Cert.ReferenceIdeal.main_call88_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb0 (i := 49) rfl) :) e41
  have e43 : @Eq ((⟨Cert.KernelIdeal.S131072, .i32⟩ : BufTy).Contents (Elt F)) (Φ₁ (Proc.devRef .tc Cert.KernelIdeal.main_v2875)) (Φ₂ (Proc.devRef .tc Cert.ReferenceIdeal.main_v2893)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb0 (i := 50) rfl) :) e42 e40
  have e44 : @Eq ((⟨Cert.KernelIdeal.S_, .i32⟩ : BufTy).Contents (Elt F)) (Φ₁ (Proc.devRef .tc Cert.KernelIdeal.main_c_870)) (Φ₂ (Proc.devRef .tc Cert.ReferenceIdeal.main_c_870)) := step0 (β := ((⟨Cert.KernelIdeal.S_, .i32⟩ : BufTy).Contents (Elt F))) (eq0 (at_ fa2 (i := 0) rfl) :) (eq0 (at_ fb0 (i := 51) rfl) :)
  have e45 : @Eq ((⟨Cert.KernelIdeal.S131072, .i32⟩ : BufTy).Contents (Elt F)) (Φ₁ (Proc.devRef .tc Cert.KernelIdeal.main_v2876)) (Φ₂ (Proc.devRef .tc Cert.ReferenceIdeal.main_v2894)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb0 (i := 52) rfl) :) e44
  have e46 : @Eq ((⟨Cert.KernelIdeal.S131072, .i32⟩ : BufTy).Contents (Elt F)) (Φ₁ (Proc.devRef .tc Cert.KernelIdeal.main_v2877)) (Φ₂ (Proc.devRef .tc Cert.ReferenceIdeal.main_v2895)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb0 (i := 53) rfl) :) e43 e45
  have e47 : @Eq ((⟨Cert.KernelIdeal.S_, .i32⟩ : BufTy).Contents (Elt F)) (Φ₁ (Proc.devRef .tc Cert.KernelIdeal.main_c_871)) (Φ₂ (Proc.devRef .tc Cert.ReferenceIdeal.main_c_871)) := step0 (β := ((⟨Cert.KernelIdeal.S_, .i32⟩ : BufTy).Contents (Elt F))) (eq0 (at_ fa2 (i := 3) rfl) :) (eq0 (at_ fb0 (i := 54) rfl) :)
  have e48 : @Eq ((⟨Cert.KernelIdeal.S_, .i32⟩ : BufTy).Contents (Elt F)) (Φ₁ (Proc.devRef .tc Cert.KernelIdeal.main_c_872)) (Φ₂ (Proc.devRef .tc Cert.ReferenceIdeal.main_c_872)) := step0 (β := ((⟨Cert.KernelIdeal.S_, .i32⟩ : BufTy).Contents (Elt F))) (eq0 (at_ fa2 (i := 4) rfl) :) (eq0 (at_ fb0 (i := 55) rfl) :)
  have e49 : @Eq ((⟨Cert.KernelIdeal.S_, .i32⟩ : BufTy).Contents (Elt F)) (Φ₁ (Proc.devRef .tc Cert.KernelIdeal.main_call89_v0)) (Φ₂ (Proc.devRef .tc Cert.ReferenceIdeal.main_call89_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb0 (i := 56) rfl) :) e47
  have e50 : @Eq ((⟨Cert.KernelIdeal.S131072, .i32⟩ : BufTy).Contents (Elt F)) (Φ₁ (Proc.devRef .tc Cert.KernelIdeal.main_call89_v1)) (Φ₂ (Proc.devRef .tc Cert.ReferenceIdeal.main_call89_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb0 (i := 57) rfl) :) e49
  have e51 : @Eq ((⟨Cert.KernelIdeal.S131072, .i32⟩ : BufTy).Contents (Elt F)) (Φ₁ (Proc.devRef .tc Cert.KernelIdeal.main_call89_v2)) (Φ₂ (Proc.devRef .tc Cert.ReferenceIdeal.main_call89_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb0 (i := 58) rfl) :) e50 e46
  have e52 : @Eq ((⟨Cert.KernelIdeal.S_, .i32⟩ : BufTy).Contents (Elt F)) (Φ₁ (Proc.devRef .tc Cert.KernelIdeal.main_call89_v3)) (Φ₂ (Proc.devRef .tc Cert.ReferenceIdeal.main_call89_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb0 (i := 59) rfl) :) e48
  have e53 : @Eq ((⟨Cert.KernelIdeal.S131072, .i32⟩ : BufTy).Contents (Elt F)) (Φ₁ (Proc.devRef .tc Cert.KernelIdeal.main_call89_v4)) (Φ₂ (Proc.devRef .tc Cert.ReferenceIdeal.main_call89_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb0 (i := 60) rfl) :) e52
  have e54 : @Eq ((⟨Cert.KernelIdeal.S131072, .i32⟩ : BufTy).Contents (Elt F)) (Φ₁ (Proc.devRef .tc Cert.KernelIdeal.main_v2878)) (Φ₂ (Proc.devRef .tc Cert.ReferenceIdeal.main_v2896)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb0 (i := 61) rfl) :) e53 e51
  have e55 : @Eq ((⟨Cert.KernelIdeal.S131072, .i32⟩ : BufTy).Contents (Elt F)) (Φ₁ (Proc.devRef .tc Cert.KernelIdeal.main_v2879)) (Φ₂ (Proc.devRef .tc Cert.ReferenceIdeal.main_v2897)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb0 (i := 62) rfl) :) e32
  have e56 : @Eq ((⟨Cert.KernelIdeal.S_, .i32⟩ : BufTy).Contents (Elt F)) (Φ₁ (Proc.devRef .tc Cert.KernelIdeal.main_c_873)) (Φ₂ (Proc.devRef .tc Cert.ReferenceIdeal.main_c_873)) := step0 (β := ((⟨Cert.KernelIdeal.S_, .i32⟩ : BufTy).Contents (Elt F))) (eq0 (at_ fa4 (i := 1) rfl) :) (eq0 (at_ fb0 (i := 63) rfl) :)
  have e57 : @Eq ((⟨Cert.KernelIdeal.S_, .i32⟩ : BufTy).Contents (Elt F)) (Φ₁ (Proc.devRef .tc Cert.KernelIdeal.main_c_874)) (Φ₂ (Proc.devRef .tc Cert.ReferenceIdeal.main_c_874)) := step0 (β := ((⟨Cert.KernelIdeal.S_, .i32⟩ : BufTy).Contents (Elt F))) (eq0 (at_ fa4 (i := 2) rfl) :) (eq0 (at_ fb0 (i := 64) rfl) :)
  have e58 : @Eq ((⟨Cert.KernelIdeal.S_, .i32⟩ : BufTy).Contents (Elt F)) (Φ₁ (Proc.devRef .tc Cert.KernelIdeal.main_call90_v0)) (Φ₂ (Proc.devRef .tc Cert.ReferenceIdeal.main_call90_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb0 (i := 65) rfl) :) e56
  have e59 : @Eq ((⟨Cert.KernelIdeal.S131072, .i32⟩ : BufTy).Contents (Elt F)) (Φ₁ (Proc.devRef .tc Cert.KernelIdeal.main_call90_v1)) (Φ₂ (Proc.devRef .tc Cert.ReferenceIdeal.main_call90_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb0 (i := 66) rfl) :) e58
  have e60 : @Eq ((⟨Cert.KernelIdeal.S131072, .i32⟩ : BufTy).Contents (Elt F)) (Φ₁ (Proc.devRef .tc Cert.KernelIdeal.main_call90_v2)) (Φ₂ (Proc.devRef .tc Cert.ReferenceIdeal.main_call90_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb0 (i := 67) rfl) :) e59 e55
  have e61 : @Eq ((⟨Cert.KernelIdeal.S_, .i32⟩ : BufTy).Contents (Elt F)) (Φ₁ (Proc.devRef .tc Cert.KernelIdeal.main_call90_v3)) (Φ₂ (Proc.devRef .tc Cert.ReferenceIdeal.main_call90_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb0 (i := 68) rfl) :) e57
  have e62 : @Eq ((⟨Cert.KernelIdeal.S131072, .i32⟩ : BufTy).Contents (Elt F)) (Φ₁ (Proc.devRef .tc Cert.KernelIdeal.main_call90_v4)) (Φ₂ (Proc.devRef .tc Cert.ReferenceIdeal.main_call90_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb0 (i := 69) rfl) :) e61
  have e63 : @Eq ((⟨Cert.KernelIdeal.S131072, .i32⟩ : BufTy).Contents (Elt F)) (Φ₁ (Proc.devRef .tc Cert.KernelIdeal.main_v2880)) (Φ₂ (Proc.devRef .tc Cert.ReferenceIdeal.main_v2898)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb0 (i := 70) rfl) :) e62 e60
  have e64 : @Eq ((⟨Cert.KernelIdeal.S_, .i32⟩ : BufTy).Contents (Elt F)) (Φ₁ (Proc.devRef .tc Cert.KernelIdeal.main_c_875)) (Φ₂ (Proc.devRef .tc Cert.ReferenceIdeal.main_c_875)) := step0 (β := ((⟨Cert.KernelIdeal.S_, .i32⟩ : BufTy).Contents (Elt F))) (eq0 (at_ fa6 (i := 0) rfl) :) (eq0 (at_ fb0 (i := 71) rfl) :)
  have e65 : @Eq ((⟨Cert.KernelIdeal.S131072, .i32⟩ : BufTy).Contents (Elt F)) (Φ₁ (Proc.devRef .tc Cert.KernelIdeal.main_v2881)) (Φ₂ (Proc.devRef .tc Cert.ReferenceIdeal.main_v2899)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb0 (i := 72) rfl) :) e64
  have e66 : @Eq ((⟨Cert.KernelIdeal.S131072, .i32⟩ : BufTy).Contents (Elt F)) (Φ₁ (Proc.devRef .tc Cert.KernelIdeal.main_v2882)) (Φ₂ (Proc.devRef .tc Cert.ReferenceIdeal.main_v2900)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb0 (i := 73) rfl) :) e63 e65
  have e67 : @Eq ((⟨Cert.KernelIdeal.S_, .i32⟩ : BufTy).Contents (Elt F)) (Φ₁ (Proc.devRef .tc Cert.KernelIdeal.main_c_876)) (Φ₂ (Proc.devRef .tc Cert.ReferenceIdeal.main_c_876)) := step0 (β := ((⟨Cert.KernelIdeal.S_, .i32⟩ : BufTy).Contents (Elt F))) (eq0 (at_ fa6 (i := 3) rfl) :) (eq0 (at_ fb0 (i := 74) rfl) :)
  have e68 : @Eq ((⟨Cert.KernelIdeal.S_, .i32⟩ : BufTy).Contents (Elt F)) (Φ₁ (Proc.devRef .tc Cert.KernelIdeal.main_c_877)) (Φ₂ (Proc.devRef .tc Cert.ReferenceIdeal.main_c_877)) := step0 (β := ((⟨Cert.KernelIdeal.S_, .i32⟩ : BufTy).Contents (Elt F))) (eq0 (at_ fa6 (i := 4) rfl) :) (eq0 (at_ fb1 (i := 0) rfl) :)
  have e69 : @Eq ((⟨Cert.KernelIdeal.S_, .i32⟩ : BufTy).Contents (Elt F)) (Φ₁ (Proc.devRef .tc Cert.KernelIdeal.main_call91_v0)) (Φ₂ (Proc.devRef .tc Cert.ReferenceIdeal.main_call91_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 1) rfl) :) e67
  have e70 : @Eq ((⟨Cert.KernelIdeal.S131072, .i32⟩ : BufTy).Contents (Elt F)) (Φ₁ (Proc.devRef .tc Cert.KernelIdeal.main_call91_v1)) (Φ₂ (Proc.devRef .tc Cert.ReferenceIdeal.main_call91_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 2) rfl) :) e69
  have e71 : @Eq ((⟨Cert.KernelIdeal.S131072, .i32⟩ : BufTy).Contents (Elt F)) (Φ₁ (Proc.devRef .tc Cert.KernelIdeal.main_call91_v2)) (Φ₂ (Proc.devRef .tc Cert.ReferenceIdeal.main_call91_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 3) rfl) :) e70 e66
  have e72 : @Eq ((⟨Cert.KernelIdeal.S_, .i32⟩ : BufTy).Contents (Elt F)) (Φ₁ (Proc.devRef .tc Cert.KernelIdeal.main_call91_v3)) (Φ₂ (Proc.devRef .tc Cert.ReferenceIdeal.main_call91_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 4) rfl) :) e68
  have e73 : @Eq ((⟨Cert.KernelIdeal.S131072, .i32⟩ : BufTy).Contents (Elt F)) (Φ₁ (Proc.devRef .tc Cert.KernelIdeal.main_call91_v4)) (Φ₂ (Proc.devRef .tc Cert.ReferenceIdeal.main_call91_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 5) rfl) :) e72
  have e74 : @Eq ((⟨Cert.KernelIdeal.S131072, .i32⟩ : BufTy).Contents (Elt F)) (Φ₁ (Proc.devRef .tc Cert.KernelIdeal.main_v2883)) (Φ₂ (Proc.devRef .tc Cert.ReferenceIdeal.main_v2901)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 6) rfl) :) e73 e71
  have e75 : @Eq ((⟨Cert.KernelIdeal.S_, .i32⟩ : BufTy).Contents (Elt F)) (Φ₁ (Proc.devRef .tc Cert.KernelIdeal.main_c_878)) (Φ₂ (Proc.devRef .tc Cert.ReferenceIdeal.main_c_878)) := step0 (β := ((⟨Cert.KernelIdeal.S_, .i32⟩ : BufTy).Contents (Elt F))) (eq0 (at_ fa8 (i := 0) rfl) :) (eq0 (at_ fb1 (i := 7) rfl) :)
  have e76 : @Eq ((⟨Cert.KernelIdeal.S131072, .i32⟩ : BufTy).Contents (Elt F)) (Φ₁ (Proc.devRef .tc Cert.KernelIdeal.main_v2884)) (Φ₂ (Proc.devRef .tc Cert.ReferenceIdeal.main_v2902)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 8) rfl) :) e75
  have e77 : @Eq ((⟨Cert.KernelIdeal.S131072, .i1⟩ : BufTy).Contents (Elt F)) (Φ₁ (Proc.devRef .tc Cert.KernelIdeal.main_v2885)) (Φ₂ (Proc.devRef .tc Cert.ReferenceIdeal.main_v2903)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 9) rfl) :) e63 e76
  have e78 : @Eq ((⟨Cert.KernelIdeal.S_, .i32⟩ : BufTy).Contents (Elt F)) (Φ₁ (Proc.devRef .tc Cert.KernelIdeal.main_c_879)) (Φ₂ (Proc.devRef .tc Cert.ReferenceIdeal.main_c_879)) := step0 (β := ((⟨Cert.KernelIdeal.S_, .i32⟩ : BufTy).Contents (Elt F))) (eq0 (at_ fa8 (i := 3) rfl) :) (eq0 (at_ fb1 (i := 10) rfl) :)
  have e79 : @Eq ((⟨Cert.KernelIdeal.S131072, .i32⟩ : BufTy).Contents (Elt F)) (Φ₁ (Proc.devRef .tc Cert.KernelIdeal.main_v2886)) (Φ₂ (Proc.devRef .tc Cert.ReferenceIdeal.main_v2904)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 11) rfl) :) e78
  have e80 : @Eq ((⟨Cert.KernelIdeal.S131072, .i32⟩ : BufTy).Contents (Elt F)) (Φ₁ (Proc.devRef .tc Cert.KernelIdeal.main_v2887)) (Φ₂ (Proc.devRef .tc Cert.ReferenceIdeal.main_v2905)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 12) rfl) :) e63 e79
  have e81 : @Eq ((⟨Cert.KernelIdeal.S131072, .i32⟩ : BufTy).Contents (Elt F)) (Φ₁ (Proc.devRef .tc Cert.KernelIdeal.main_v2888)) (Φ₂ (Proc.devRef .tc Cert.ReferenceIdeal.main_v2906)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 13) rfl) :) e77 e80 e63
  have e82 : @Eq ((⟨Cert.KernelIdeal.S_, .i32⟩ : BufTy).Contents (Elt F)) (Φ₁ (Proc.devRef .tc Cert.KernelIdeal.main_c_880)) (Φ₂ (Proc.devRef .tc Cert.ReferenceIdeal.main_c_880)) := step0 (β := ((⟨Cert.KernelIdeal.S_, .i32⟩ : BufTy).Contents (Elt F))) (eq0 (at_ fa8 (i := 7) rfl) :) (eq0 (at_ fb1 (i := 14) rfl) :)
  have e83 : @Eq ((⟨Cert.KernelIdeal.S131072, .i32⟩ : BufTy).Contents (Elt F)) (Φ₁ (Proc.devRef .tc Cert.KernelIdeal.main_v2889)) (Φ₂ (Proc.devRef .tc Cert.ReferenceIdeal.main_v2907)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 15) rfl) :) e82
  have e84 : @Eq ((⟨Cert.KernelIdeal.S131072, .i1⟩ : BufTy).Contents (Elt F)) (Φ₁ (Proc.devRef .tc Cert.KernelIdeal.main_v2890)) (Φ₂ (Proc.devRef .tc Cert.ReferenceIdeal.main_v2908)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 16) rfl) :) e43 e83
  have e85 : @Eq ((⟨Cert.KernelIdeal.S_, .i32⟩ : BufTy).Contents (Elt F)) (Φ₁ (Proc.devRef .tc Cert.KernelIdeal.main_c_881)) (Φ₂ (Proc.devRef .tc Cert.ReferenceIdeal.main_c_881)) := step0 (β := ((⟨Cert.KernelIdeal.S_, .i32⟩ : BufTy).Contents (Elt F))) (eq0 (at_ fa8 (i := 10) rfl) :) (eq0 (at_ fb1 (i := 17) rfl) :)
  have e86 : @Eq ((⟨Cert.KernelIdeal.S131072, .i32⟩ : BufTy).Contents (Elt F)) (Φ₁ (Proc.devRef .tc Cert.KernelIdeal.main_v2891)) (Φ₂ (Proc.devRef .tc Cert.ReferenceIdeal.main_v2909)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb1 (i := 18) rfl) :) e85
  have e87 : @Eq ((⟨Cert.KernelIdeal.S131072, .i32⟩ : BufTy).Contents (Elt F)) (Φ₁ (Proc.devRef .tc Cert.KernelIdeal.main_v2892)) (Φ₂ (Proc.devRef .tc Cert.ReferenceIdeal.main_v2910)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb1 (i := 19) rfl) :) e43 e86
  have e88 : @Eq ((⟨Cert.KernelIdeal.S131072, .i32⟩ : BufTy).Contents (Elt F)) (Φ₁ (Proc.devRef .tc Cert.KernelIdeal.main_v2893)) (Φ₂ (Proc.devRef .tc Cert.ReferenceIdeal.main_v2911)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb1 (i := 20) rfl) :) e84 e87 e43
  have e89 : @Eq ((⟨Cert.KernelIdeal.S131072x1, .i32⟩ : BufTy).Contents (Elt F)) (Φ₁ (Proc.devRef .tc Cert.KernelIdeal.main_v2894)) (Φ₂ (Proc.devRef .tc Cert.ReferenceIdeal.main_v2912)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb1 (i := 21) rfl) :) e81
  have e90 : @Eq ((⟨Cert.KernelIdeal.S131072x1, .i32⟩ : BufTy).Contents (Elt F)) (Φ₁ (Proc.devRef .tc Cert.KernelIdeal.main_v2895)) (Φ₂ (Proc.devRef .tc Cert.ReferenceIdeal.main_v2913)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb1 (i := 22) rfl) :) e88
  have e91 : @Eq ((⟨Cert.KernelIdeal.S131072x2, .i32⟩ : BufTy).Contents (Elt F)) (Φ₁ (Proc.devRef .tc Cert.KernelIdeal.main_v2896)) (Φ₂ (Proc.devRef .tc Cert.ReferenceIdeal.main_v2914)) := by rw [eq2 (at_ fa8 (i := 16) rfl), eq2 (at_ fb1 (i := 23) rfl), e89, e90] <;> rfl
  have e92 : @Eq ((⟨Cert.KernelIdeal.S32x131072, .f32⟩ : BufTy).Contents (Elt F)) (Φ₁ (Proc.devRef .tc Cert.KernelIdeal.main_v2897)) (Φ₂ (Proc.devRef .tc Cert.ReferenceIdeal.main_v2915)) := by rw [eq2 (at_ fa8 (i := 17) rfl), eq2 (at_ fb1 (i := 24) rfl), x2, e91] <;> rfl
  have e93 : @Eq ((⟨Cert.KernelIdeal.S_, .i32⟩ : BufTy).Contents (Elt F)) (Φ₁ (Proc.devRef .tc Cert.KernelIdeal.main_c_882)) (Φ₂ (Proc.devRef .tc Cert.ReferenceIdeal.main_c_882)) := step0 (β := ((⟨Cert.KernelIdeal.S_, .i32⟩ : BufTy).Contents (Elt F))) (eq0 (at_ fa8 (i := 18) rfl) :) (eq0 (at_ fb1 (i := 25) rfl) :)
  have e94 : @Eq ((⟨Cert.KernelIdeal.S131072, .i32⟩ : BufTy).Contents (Elt F)) (Φ₁ (Proc.devRef .tc Cert.KernelIdeal.main_v2898)) (Φ₂ (Proc.devRef .tc Cert.ReferenceIdeal.main_v2916)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb1 (i := 26) rfl) :) e93
  have e95 : @Eq ((⟨Cert.KernelIdeal.S131072, .i1⟩ : BufTy).Contents (Elt F)) (Φ₁ (Proc.devRef .tc Cert.KernelIdeal.main_v2899)) (Φ₂ (Proc.devRef .tc Cert.ReferenceIdeal.main_v2917)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb1 (i := 27) rfl) :) e63 e94
  have e96 : @Eq ((⟨Cert.KernelIdeal.S_, .i32⟩ : BufTy).Contents (Elt F)) (Φ₁ (Proc.devRef .tc Cert.KernelIdeal.main_c_883)) (Φ₂ (Proc.devRef .tc Cert.ReferenceIdeal.main_c_883)) := step0 (β := ((⟨Cert.KernelIdeal.S_, .i32⟩ : BufTy).Contents (Elt F))) (eq0 (at_ fa8 (i := 21) rfl) :) (eq0 (at_ fb1 (i := 28) rfl) :)
  have e97 : @Eq ((⟨Cert.KernelIdeal.S131072, .i32⟩ : BufTy).Contents (Elt F)) (Φ₁ (Proc.devRef .tc Cert.KernelIdeal.main_v2900)) (Φ₂ (Proc.devRef .tc Cert.ReferenceIdeal.main_v2918)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb1 (i := 29) rfl) :) e96
  have e98 : @Eq ((⟨Cert.KernelIdeal.S131072, .i32⟩ : BufTy).Contents (Elt F)) (Φ₁ (Proc.devRef .tc Cert.KernelIdeal.main_v2901)) (Φ₂ (Proc.devRef .tc Cert.ReferenceIdeal.main_v2919)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb1 (i := 30) rfl) :) e63 e97
  have e99 : @Eq ((⟨Cert.KernelIdeal.S131072, .i32⟩ : BufTy).Contents (Elt F)) (Φ₁ (Proc.devRef .tc Cert.KernelIdeal.main_v2902)) (Φ₂ (Proc.devRef .tc Cert.ReferenceIdeal.main_v2920)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb1 (i := 31) rfl) :) e95 e98 e63
  have e100 : @Eq ((⟨Cert.KernelIdeal.S_, .i32⟩ : BufTy).Contents (Elt F)) (Φ₁ (Proc.devRef .tc Cert.KernelIdeal.main_c_884)) (Φ₂ (Proc.devRef .tc Cert.ReferenceIdeal.main_c_884)) := step0 (β := ((⟨Cert.KernelIdeal.S_, .i32⟩ : BufTy).Contents (Elt F))) (eq0 (at_ fa8 (i := 25) rfl) :) (eq0 (at_ fb1 (i := 32) rfl) :)
  have e101 : @Eq ((⟨Cert.KernelIdeal.S131072, .i32⟩ : BufTy).Contents (Elt F)) (Φ₁ (Proc.devRef .tc Cert.KernelIdeal.main_v2903)) (Φ₂ (Proc.devRef .tc Cert.ReferenceIdeal.main_v2921)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb1 (i := 33) rfl) :) e100
  have e102 : @Eq ((⟨Cert.KernelIdeal.S131072, .i1⟩ : BufTy).Contents (Elt F)) (Φ₁ (Proc.devRef .tc Cert.KernelIdeal.main_v2904)) (Φ₂ (Proc.devRef .tc Cert.ReferenceIdeal.main_v2922)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb1 (i := 34) rfl) :) e54 e101
  have e103 : @Eq ((⟨Cert.KernelIdeal.S_, .i32⟩ : BufTy).Contents (Elt F)) (Φ₁ (Proc.devRef .tc Cert.KernelIdeal.main_c_885)) (Φ₂ (Proc.devRef .tc Cert.ReferenceIdeal.main_c_885)) := step0 (β := ((⟨Cert.KernelIdeal.S_, .i32⟩ : BufTy).Contents (Elt F))) (eq0 (at_ fa8 (i := 28) rfl) :) (eq0 (at_ fb1 (i := 35) rfl) :)
  have e104 : @Eq ((⟨Cert.KernelIdeal.S131072, .i32⟩ : BufTy).Contents (Elt F)) (Φ₁ (Proc.devRef .tc Cert.KernelIdeal.main_v2905)) (Φ₂ (Proc.devRef .tc Cert.ReferenceIdeal.main_v2923)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb1 (i := 36) rfl) :) e103
  have e105 : @Eq ((⟨Cert.KernelIdeal.S131072, .i32⟩ : BufTy).Contents (Elt F)) (Φ₁ (Proc.devRef .tc Cert.KernelIdeal.main_v2906)) (Φ₂ (Proc.devRef .tc Cert.ReferenceIdeal.main_v2924)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb1 (i := 37) rfl) :) e54 e104
  have e106 : @Eq ((⟨Cert.KernelIdeal.S131072, .i32⟩ : BufTy).Contents (Elt F)) (Φ₁ (Proc.devRef .tc Cert.KernelIdeal.main_v2907)) (Φ₂ (Proc.devRef .tc Cert.ReferenceIdeal.main_v2925)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb1 (i := 38) rfl) :) e102 e105 e54
  have e107 : @Eq ((⟨Cert.KernelIdeal.S131072x1, .i32⟩ : BufTy).Contents (Elt F)) (Φ₁ (Proc.devRef .tc Cert.KernelIdeal.main_v2908)) (Φ₂ (Proc.devRef .tc Cert.ReferenceIdeal.main_v2926)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb1 (i := 39) rfl) :) e99
  have e108 : @Eq ((⟨Cert.KernelIdeal.S131072x1, .i32⟩ : BufTy).Contents (Elt F)) (Φ₁ (Proc.devRef .tc Cert.KernelIdeal.main_v2909)) (Φ₂ (Proc.devRef .tc Cert.ReferenceIdeal.main_v2927)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb1 (i := 40) rfl) :) e106
  have e109 : @Eq ((⟨Cert.KernelIdeal.S131072x2, .i32⟩ : BufTy).Contents (Elt F)) (Φ₁ (Proc.devRef .tc Cert.KernelIdeal.main_v2910)) (Φ₂ (Proc.devRef .tc Cert.ReferenceIdeal.main_v2928)) := by rw [eq2 (at_ fa8 (i := 34) rfl), eq2 (at_ fb1 (i := 41) rfl), e107, e108] <;> rfl
  have e110 : @Eq ((⟨Cert.KernelIdeal.S32x131072, .f32⟩ : BufTy).Contents (Elt F)) (Φ₁ (Proc.devRef .tc Cert.KernelIdeal.main_v2911)) (Φ₂ (Proc.devRef .tc Cert.ReferenceIdeal.main_v2929)) := by rw [eq2 (at_ fa8 (i := 35) rfl), eq2 (at_ fb1 (i := 42) rfl), x2, e109] <;> rfl
  have e111 : @Eq ((⟨Cert.KernelIdeal.S_, .i32⟩ : BufTy).Contents (Elt F)) (Φ₁ (Proc.devRef .tc Cert.KernelIdeal.main_c_886)) (Φ₂ (Proc.devRef .tc Cert.ReferenceIdeal.main_c_886)) := step0 (β := ((⟨Cert.KernelIdeal.S_, .i32⟩ : BufTy).Contents (Elt F))) (eq0 (at_ fa8 (i := 36) rfl) :) (eq0 (at_ fb1 (i := 43) rfl) :)
  have e112 : @Eq ((⟨Cert.KernelIdeal.S131072, .i32⟩ : BufTy).Contents (Elt F)) (Φ₁ (Proc.devRef .tc Cert.KernelIdeal.main_v2912)) (Φ₂ (Proc.devRef .tc Cert.ReferenceIdeal.main_v2930)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb1 (i := 44) rfl) :) e111
  have e113 : @Eq ((⟨Cert.KernelIdeal.S131072, .i1⟩ : BufTy).Contents (Elt F)) (Φ₁ (Proc.devRef .tc Cert.KernelIdeal.main_v2913)) (Φ₂ (Proc.devRef .tc Cert.ReferenceIdeal.main_v2931)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb1 (i := 45) rfl) :) e74 e112
  have e114 : @Eq ((⟨Cert.KernelIdeal.S_, .i32⟩ : BufTy).Contents (Elt F)) (Φ₁ (Proc.devRef .tc Cert.KernelIdeal.main_c_887)) (Φ₂ (Proc.devRef .tc Cert.ReferenceIdeal.main_c_887)) := step0 (β := ((⟨Cert.KernelIdeal.S_, .i32⟩ : BufTy).Contents (Elt F))) (eq0 (at_ fa8 (i := 39) rfl) :) (eq0 (at_ fb1 (i := 46) rfl) :)
  have e115 : @Eq ((⟨Cert.KernelIdeal.S131072, .i32⟩ : BufTy).Contents (Elt F)) (Φ₁ (Proc.devRef .tc Cert.KernelIdeal.main_v2914)) (Φ₂ (Proc.devRef .tc Cert.ReferenceIdeal.main_v2932)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb1 (i := 47) rfl) :) e114
  have e116 : @Eq ((⟨Cert.KernelIdeal.S131072, .i32⟩ : BufTy).Contents (Elt F)) (Φ₁ (Proc.devRef .tc Cert.KernelIdeal.main_v2915)) (Φ₂ (Proc.devRef .tc Cert.ReferenceIdeal.main_v2933)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb1 (i := 48) rfl) :) e74 e115
  have e117 : @Eq ((⟨Cert.KernelIdeal.S131072, .i32⟩ : BufTy).Contents (Elt F)) (Φ₁ (Proc.devRef .tc Cert.KernelIdeal.main_v2916)) (Φ₂ (Proc.devRef .tc Cert.ReferenceIdeal.main_v2934)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb1 (i := 49) rfl) :) e113 e116 e74
  have e118 : @Eq ((⟨Cert.KernelIdeal.S_, .i32⟩ : BufTy).Contents (Elt F)) (Φ₁ (Proc.devRef .tc Cert.KernelIdeal.main_c_888)) (Φ₂ (Proc.devRef .tc Cert.ReferenceIdeal.main_c_888)) := step0 (β := ((⟨Cert.KernelIdeal.S_, .i32⟩ : BufTy).Contents (Elt F))) (eq0 (at_ fa8 (i := 43) rfl) :) (eq0 (at_ fb1 (i := 50) rfl) :)
  have e119 : @Eq ((⟨Cert.KernelIdeal.S131072, .i32⟩ : BufTy).Contents (Elt F)) (Φ₁ (Proc.devRef .tc Cert.KernelIdeal.main_v2917)) (Φ₂ (Proc.devRef .tc Cert.ReferenceIdeal.main_v2935)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb1 (i := 51) rfl) :) e118
  have e120 : @Eq ((⟨Cert.KernelIdeal.S131072, .i1⟩ : BufTy).Contents (Elt F)) (Φ₁ (Proc.devRef .tc Cert.KernelIdeal.main_v2918)) (Φ₂ (Proc.devRef .tc Cert.ReferenceIdeal.main_v2936)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb1 (i := 52) rfl) :) e43 e119
  have e121 : @Eq ((⟨Cert.KernelIdeal.S_, .i32⟩ : BufTy).Contents (Elt F)) (Φ₁ (Proc.devRef .tc Cert.KernelIdeal.main_c_889)) (Φ₂ (Proc.devRef .tc Cert.ReferenceIdeal.main_c_889)) := step0 (β := ((⟨Cert.KernelIdeal.S_, .i32⟩ : BufTy).Contents (Elt F))) (eq0 (at_ fa8 (i := 46) rfl) :) (eq0 (at_ fb1 (i := 53) rfl) :)
  have e122 : @Eq ((⟨Cert.KernelIdeal.S131072, .i32⟩ : BufTy).Contents (Elt F)) (Φ₁ (Proc.devRef .tc Cert.KernelIdeal.main_v2919)) (Φ₂ (Proc.devRef .tc Cert.ReferenceIdeal.main_v2937)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb1 (i := 54) rfl) :) e121
  have e123 : @Eq ((⟨Cert.KernelIdeal.S131072, .i32⟩ : BufTy).Contents (Elt F)) (Φ₁ (Proc.devRef .tc Cert.KernelIdeal.main_v2920)) (Φ₂ (Proc.devRef .tc Cert.ReferenceIdeal.main_v2938)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb1 (i := 55) rfl) :) e43 e122
  have e124 : @Eq ((⟨Cert.KernelIdeal.S131072, .i32⟩ : BufTy).Contents (Elt F)) (Φ₁ (Proc.devRef .tc Cert.KernelIdeal.main_v2921)) (Φ₂ (Proc.devRef .tc Cert.ReferenceIdeal.main_v2939)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb1 (i := 56) rfl) :) e120 e123 e43
  have e125 : @Eq ((⟨Cert.KernelIdeal.S131072x1, .i32⟩ : BufTy).Contents (Elt F)) (Φ₁ (Proc.devRef .tc Cert.KernelIdeal.main_v2922)) (Φ₂ (Proc.devRef .tc Cert.ReferenceIdeal.main_v2940)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb1 (i := 57) rfl) :) e117
  have e126 : @Eq ((⟨Cert.KernelIdeal.S131072x1, .i32⟩ : BufTy).Contents (Elt F)) (Φ₁ (Proc.devRef .tc Cert.KernelIdeal.main_v2923)) (Φ₂ (Proc.devRef .tc Cert.ReferenceIdeal.main_v2941)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb1 (i := 58) rfl) :) e124
  have e127 : @Eq ((⟨Cert.KernelIdeal.S131072x2, .i32⟩ : BufTy).Contents (Elt F)) (Φ₁ (Proc.devRef .tc Cert.KernelIdeal.main_v2924)) (Φ₂ (Proc.devRef .tc Cert.ReferenceIdeal.main_v2942)) := by rw [eq2 (at_ fa8 (i := 52) rfl), eq2 (at_ fb1 (i := 59) rfl), e125, e126] <;> rfl
  have e128 : @Eq ((⟨Cert.KernelIdeal.S32x131072, .f32⟩ : BufTy).Contents (Elt F)) (Φ₁ (Proc.devRef .tc Cert.KernelIdeal.main_v2925)) (Φ₂ (Proc.devRef .tc Cert.ReferenceIdeal.main_v2943)) := by rw [eq2 (at_ fa8 (i := 53) rfl), eq2 (at_ fb1 (i := 60) rfl), x2, e127] <;> rfl
  have e129 : @Eq ((⟨Cert.KernelIdeal.S_, .i32⟩ : BufTy).Contents (Elt F)) (Φ₁ (Proc.devRef .tc Cert.KernelIdeal.main_c_890)) (Φ₂ (Proc.devRef .tc Cert.ReferenceIdeal.main_c_890)) := step0 (β := ((⟨Cert.KernelIdeal.S_, .i32⟩ : BufTy).Contents (Elt F))) (eq0 (at_ fa8 (i := 54) rfl) :) (eq0 (at_ fb1 (i := 61) rfl) :)
  have e130 : @Eq ((⟨Cert.KernelIdeal.S131072, .i32⟩ : BufTy).Contents (Elt F)) (Φ₁ (Proc.devRef .tc Cert.KernelIdeal.main_v2926)) (Φ₂ (Proc.devRef .tc Cert.ReferenceIdeal.main_v2944)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb1 (i := 62) rfl) :) e129
  have e131 : @Eq ((⟨Cert.KernelIdeal.S131072, .i1⟩ : BufTy).Contents (Elt F)) (Φ₁ (Proc.devRef .tc Cert.KernelIdeal.main_v2927)) (Φ₂ (Proc.devRef .tc Cert.ReferenceIdeal.main_v2945)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb1 (i := 63) rfl) :) e74 e130
  have e132 : @Eq ((⟨Cert.KernelIdeal.S_, .i32⟩ : BufTy).Contents (Elt F)) (Φ₁ (Proc.devRef .tc Cert.KernelIdeal.main_c_891)) (Φ₂ (Proc.devRef .tc Cert.ReferenceIdeal.main_c_891)) := step0 (β := ((⟨Cert.KernelIdeal.S_, .i32⟩ : BufTy).Contents (Elt F))) (eq0 (at_ fa8 (i := 57) rfl) :) (eq0 (at_ fb1 (i := 64) rfl) :)
  have e133 : @Eq ((⟨Cert.KernelIdeal.S131072, .i32⟩ : BufTy).Contents (Elt F)) (Φ₁ (Proc.devRef .tc Cert.KernelIdeal.main_v2928)) (Φ₂ (Proc.devRef .tc Cert.ReferenceIdeal.main_v2946)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 0) rfl) :) e132
  have e134 : @Eq ((⟨Cert.KernelIdeal.S131072, .i32⟩ : BufTy).Contents (Elt F)) (Φ₁ (Proc.devRef .tc Cert.KernelIdeal.main_v2929)) (Φ₂ (Proc.devRef .tc Cert.ReferenceIdeal.main_v2947)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 1) rfl) :) e74 e133
  have e135 : @Eq ((⟨Cert.KernelIdeal.S131072, .i32⟩ : BufTy).Contents (Elt F)) (Φ₁ (Proc.devRef .tc Cert.KernelIdeal.main_v2930)) (Φ₂ (Proc.devRef .tc Cert.ReferenceIdeal.main_v2948)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 2) rfl) :) e131 e134 e74
  have e136 : @Eq ((⟨Cert.KernelIdeal.S_, .i32⟩ : BufTy).Contents (Elt F)) (Φ₁ (Proc.devRef .tc Cert.KernelIdeal.main_c_892)) (Φ₂ (Proc.devRef .tc Cert.ReferenceIdeal.main_c_892)) := step0 (β := ((⟨Cert.KernelIdeal.S_, .i32⟩ : BufTy).Contents (Elt F))) (eq0 (at_ fa8 (i := 61) rfl) :) (eq0 (at_ fb2 (i := 3) rfl) :)
  have e137 : @Eq ((⟨Cert.KernelIdeal.S131072, .i32⟩ : BufTy).Contents (Elt F)) (Φ₁ (Proc.devRef .tc Cert.KernelIdeal.main_v2931)) (Φ₂ (Proc.devRef .tc Cert.ReferenceIdeal.main_v2949)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 4) rfl) :) e136
  have e138 : @Eq ((⟨Cert.KernelIdeal.S131072, .i1⟩ : BufTy).Contents (Elt F)) (Φ₁ (Proc.devRef .tc Cert.KernelIdeal.main_v2932)) (Φ₂ (Proc.devRef .tc Cert.ReferenceIdeal.main_v2950)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 5) rfl) :) e54 e137
  have e139 : @Eq ((⟨Cert.KernelIdeal.S_, .i32⟩ : BufTy).Contents (Elt F)) (Φ₁ (Proc.devRef .tc Cert.KernelIdeal.main_c_893)) (Φ₂ (Proc.devRef .tc Cert.ReferenceIdeal.main_c_893)) := step0 (β := ((⟨Cert.KernelIdeal.S_, .i32⟩ : BufTy).Contents (Elt F))) (eq0 (at_ fa8 (i := 64) rfl) :) (eq0 (at_ fb2 (i := 6) rfl) :)
  have e140 : @Eq ((⟨Cert.KernelIdeal.S131072, .i32⟩ : BufTy).Contents (Elt F)) (Φ₁ (Proc.devRef .tc Cert.KernelIdeal.main_v2933)) (Φ₂ (Proc.devRef .tc Cert.ReferenceIdeal.main_v2951)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 7) rfl) :) e139
  have e141 : @Eq ((⟨Cert.KernelIdeal.S131072, .i32⟩ : BufTy).Contents (Elt F)) (Φ₁ (Proc.devRef .tc Cert.KernelIdeal.main_v2934)) (Φ₂ (Proc.devRef .tc Cert.ReferenceIdeal.main_v2952)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 8) rfl) :) e54 e140
  have e142 : @Eq ((⟨Cert.KernelIdeal.S131072, .i32⟩ : BufTy).Contents (Elt F)) (Φ₁ (Proc.devRef .tc Cert.KernelIdeal.main_v2935)) (Φ₂ (Proc.devRef .tc Cert.ReferenceIdeal.main_v2953)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 9) rfl) :) e138 e141 e54
  have e143 : @Eq ((⟨Cert.KernelIdeal.S131072x1, .i32⟩ : BufTy).Contents (Elt F)) (Φ₁ (Proc.devRef .tc Cert.KernelIdeal.main_v2936)) (Φ₂ (Proc.devRef .tc Cert.ReferenceIdeal.main_v2954)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 10) rfl) :) e135
  have e144 : @Eq ((⟨Cert.KernelIdeal.S131072x1, .i32⟩ : BufTy).Contents (Elt F)) (Φ₁ (Proc.devRef .tc Cert.KernelIdeal.main_v2937)) (Φ₂ (Proc.devRef .tc Cert.ReferenceIdeal.main_v2955)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 11) rfl) :) e142
  have e145 : @Eq ((⟨Cert.KernelIdeal.S131072x2, .i32⟩ : BufTy).Contents (Elt F)) (Φ₁ (Proc.devRef .tc Cert.KernelIdeal.main_v2938)) (Φ₂ (Proc.devRef .tc Cert.ReferenceIdeal.main_v2956)) := by rw [eq2 (at_ fa8 (i := 70) rfl), eq2 (at_ fb2 (i := 12) rfl), e143, e144] <;> rfl
  have e146 : @Eq ((⟨Cert.KernelIdeal.S32x131072, .f32⟩ : BufTy).Contents (Elt F)) (Φ₁ (Proc.devRef .tc Cert.KernelIdeal.main_v2939)) (Φ₂ (Proc.devRef .tc Cert.ReferenceIdeal.main_v2957)) := by rw [eq2 (at_ fa8 (i := 71) rfl), eq2 (at_ fb2 (i := 13) rfl), x2, e145] <;> rfl
  have e147 : @Eq ((⟨Cert.KernelIdeal.S_, .f32⟩ : BufTy).Contents (Elt F)) (Φ₁ (Proc.devRef .tc Cert.KernelIdeal.main_cst_894)) (Φ₂ (Proc.devRef .tc Cert.ReferenceIdeal.main_cst_894)) := step0 (β := ((⟨Cert.KernelIdeal.S_, .f32⟩ : BufTy).Contents (Elt F))) (eq0 (at_ fa8 (i := 72) rfl) :) (eq0 (at_ fb2 (i := 14) rfl) :)
  have e148 : @Eq ((⟨Cert.KernelIdeal.S131072, .f32⟩ : BufTy).Contents (Elt F)) (Φ₁ (Proc.devRef .tc Cert.KernelIdeal.main_v2940)) (Φ₂ (Proc.devRef .tc Cert.ReferenceIdeal.main_v2958)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb2 (i := 15) rfl) :) e147
  have e149 : @Eq ((⟨Cert.KernelIdeal.S131072, .f32⟩ : BufTy).Contents (Elt F)) (Φ₁ (Proc.devRef .tc Cert.KernelIdeal.main_v2941)) (Φ₂ (Proc.devRef .tc Cert.ReferenceIdeal.main_v2959)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb2 (i := 16) rfl) :) e148 e33
  have e150 : @Eq ((⟨Cert.KernelIdeal.S1x131072, .f32⟩ : BufTy).Contents (Elt F)) (Φ₁ (Proc.devRef .tc Cert.KernelIdeal.main_v2942)) (Φ₂ (Proc.devRef .tc Cert.ReferenceIdeal.main_v2960)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb2 (i := 17) rfl) :) e149
  have e151 : @Eq ((⟨Cert.KernelIdeal.S32x131072, .f32⟩ : BufTy).Contents (Elt F)) (Φ₁ (Proc.devRef .tc Cert.KernelIdeal.main_v2943)) (Φ₂ (Proc.devRef .tc Cert.ReferenceIdeal.main_v2961)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb2 (i := 18) rfl) :) e150
  have e152 : @Eq ((⟨Cert.KernelIdeal.S32x131072, .f32⟩ : BufTy).Contents (Elt F)) (Φ₁ (Proc.devRef .tc Cert.KernelIdeal.main_v2944)) (Φ₂ (Proc.devRef .tc Cert.ReferenceIdeal.main_v2962)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb2 (i := 19) rfl) :) e92 e151
  have e153 : @Eq ((⟨Cert.KernelIdeal.S_, .f32⟩ : BufTy).Contents (Elt F)) (Φ₁ (Proc.devRef .tc Cert.KernelIdeal.main_cst_895)) (Φ₂ (Proc.devRef .tc Cert.ReferenceIdeal.main_cst_895)) := step0 (β := ((⟨Cert.KernelIdeal.S_, .f32⟩ : BufTy).Contents (Elt F))) (eq0 (at_ fa8 (i := 78) rfl) :) (eq0 (at_ fb2 (i := 20) rfl) :)
  have e154 : @Eq ((⟨Cert.KernelIdeal.S131072, .f32⟩ : BufTy).Contents (Elt F)) (Φ₁ (Proc.devRef .tc Cert.KernelIdeal.main_v2945)) (Φ₂ (Proc.devRef .tc Cert.ReferenceIdeal.main_v2963)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb2 (i := 21) rfl) :) e153
  have e155 : @Eq ((⟨Cert.KernelIdeal.S131072, .f32⟩ : BufTy).Contents (Elt F)) (Φ₁ (Proc.devRef .tc Cert.KernelIdeal.main_v2946)) (Φ₂ (Proc.devRef .tc Cert.ReferenceIdeal.main_v2964)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb2 (i := 22) rfl) :) e154 e34
  have e156 : @Eq ((⟨Cert.KernelIdeal.S1x131072, .f32⟩ : BufTy).Contents (Elt F)) (Φ₁ (Proc.devRef .tc Cert.KernelIdeal.main_v2947)) (Φ₂ (Proc.devRef .tc Cert.ReferenceIdeal.main_v2965)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb2 (i := 23) rfl) :) e155
  have e157 : @Eq ((⟨Cert.KernelIdeal.S32x131072, .f32⟩ : BufTy).Contents (Elt F)) (Φ₁ (Proc.devRef .tc Cert.KernelIdeal.main_v2948)) (Φ₂ (Proc.devRef .tc Cert.ReferenceIdeal.main_v2966)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb2 (i := 24) rfl) :) e156
  have e158 : @Eq ((⟨Cert.KernelIdeal.S32x131072, .f32⟩ : BufTy).Contents (Elt F)) (Φ₁ (Proc.devRef .tc Cert.KernelIdeal.main_v2949)) (Φ₂ (Proc.devRef .tc Cert.ReferenceIdeal.main_v2967)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb2 (i := 25) rfl) :) e152 e157
  have e159 : @Eq ((⟨Cert.KernelIdeal.S1x131072, .f32⟩ : BufTy).Contents (Elt F)) (Φ₁ (Proc.devRef .tc Cert.KernelIdeal.main_v2950)) (Φ₂ (Proc.devRef .tc Cert.ReferenceIdeal.main_v2968)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb2 (i := 26) rfl) :) e33
  have e160 : @Eq ((⟨Cert.KernelIdeal.S32x131072, .f32⟩ : BufTy).Contents (Elt F)) (Φ₁ (Proc.devRef .tc Cert.KernelIdeal.main_v2951)) (Φ₂ (Proc.devRef .tc Cert.ReferenceIdeal.main_v2969)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb2 (i := 27) rfl) :) e159
  have e161 : @Eq ((⟨Cert.KernelIdeal.S32x131072, .f32⟩ : BufTy).Contents (Elt F)) (Φ₁ (Proc.devRef .tc Cert.KernelIdeal.main_v2952)) (Φ₂ (Proc.devRef .tc Cert.ReferenceIdeal.main_v2970)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb2 (i := 28) rfl) :) e110 e160
  have e162 : @Eq ((⟨Cert.KernelIdeal.S_, .f32⟩ : BufTy).Contents (Elt F)) (Φ₁ (Proc.devRef .tc Cert.KernelIdeal.main_cst_896)) (Φ₂ (Proc.devRef .tc Cert.ReferenceIdeal.main_cst_896)) := step0 (β := ((⟨Cert.KernelIdeal.S_, .f32⟩ : BufTy).Contents (Elt F))) (eq0 (at_ fa8 (i := 87) rfl) :) (eq0 (at_ fb2 (i := 29) rfl) :)
  have e163 : @Eq ((⟨Cert.KernelIdeal.S131072, .f32⟩ : BufTy).Contents (Elt F)) (Φ₁ (Proc.devRef .tc Cert.KernelIdeal.main_v2953)) (Φ₂ (Proc.devRef .tc Cert.ReferenceIdeal.main_v2971)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb2 (i := 30) rfl) :) e162
  have e164 : @Eq ((⟨Cert.KernelIdeal.S131072, .f32⟩ : BufTy).Contents (Elt F)) (Φ₁ (Proc.devRef .tc Cert.KernelIdeal.main_v2954)) (Φ₂ (Proc.devRef .tc Cert.ReferenceIdeal.main_v2972)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb2 (i := 31) rfl) :) e163 e34
  have e165 : @Eq ((⟨Cert.KernelIdeal.S1x131072, .f32⟩ : BufTy).Contents (Elt F)) (Φ₁ (Proc.devRef .tc Cert.KernelIdeal.main_v2955)) (Φ₂ (Proc.devRef .tc Cert.ReferenceIdeal.main_v2973)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb2 (i := 32) rfl) :) e164
  have e166 : @Eq ((⟨Cert.KernelIdeal.S32x131072, .f32⟩ : BufTy).Contents (Elt F)) (Φ₁ (Proc.devRef .tc Cert.KernelIdeal.main_v2956)) (Φ₂ (Proc.devRef .tc Cert.ReferenceIdeal.main_v2974)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb2 (i := 33) rfl) :) e165
  have e167 : @Eq ((⟨Cert.KernelIdeal.S32x131072, .f32⟩ : BufTy).Contents (Elt F)) (Φ₁ (Proc.devRef .tc Cert.KernelIdeal.main_v2957)) (Φ₂ (Proc.devRef .tc Cert.ReferenceIdeal.main_v2975)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb2 (i := 34) rfl) :) e161 e166
  have e168 : @Eq ((⟨Cert.KernelIdeal.S32x131072, .f32⟩ : BufTy).Contents (Elt F)) (Φ₁ (Proc.devRef .tc Cert.KernelIdeal.main_v2958)) (Φ₂ (Proc.devRef .tc Cert.ReferenceIdeal.main_v2976)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb2 (i := 35) rfl) :) e158 e167
  have e169 : @Eq ((⟨Cert.KernelIdeal.S_, .f32⟩ : BufTy).Contents (Elt F)) (Φ₁ (Proc.devRef .tc Cert.KernelIdeal.main_cst_897)) (Φ₂ (Proc.devRef .tc Cert.ReferenceIdeal.main_cst_897)) := step0 (β := ((⟨Cert.KernelIdeal.S_, .f32⟩ : BufTy).Contents (Elt F))) (eq0 (at_ fa8 (i := 94) rfl) :) (eq0 (at_ fb2 (i := 36) rfl) :)
  have e170 : @Eq ((⟨Cert.KernelIdeal.S131072, .f32⟩ : BufTy).Contents (Elt F)) (Φ₁ (Proc.devRef .tc Cert.KernelIdeal.main_v2959)) (Φ₂ (Proc.devRef .tc Cert.ReferenceIdeal.main_v2977)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb2 (i := 37) rfl) :) e169
  have e171 : @Eq ((⟨Cert.KernelIdeal.S131072, .f32⟩ : BufTy).Contents (Elt F)) (Φ₁ (Proc.devRef .tc Cert.KernelIdeal.main_v2960)) (Φ₂ (Proc.devRef .tc Cert.ReferenceIdeal.main_v2978)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb2 (i := 38) rfl) :) e170 e33
  have e172 : @Eq ((⟨Cert.KernelIdeal.S1x131072, .f32⟩ : BufTy).Contents (Elt F)) (Φ₁ (Proc.devRef .tc Cert.KernelIdeal.main_v2961)) (Φ₂ (Proc.devRef .tc Cert.ReferenceIdeal.main_v2979)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb2 (i := 39) rfl) :) e171
  have e173 : @Eq ((⟨Cert.KernelIdeal.S32x131072, .f32⟩ : BufTy).Contents (Elt F)) (Φ₁ (Proc.devRef .tc Cert.KernelIdeal.main_v2962)) (Φ₂ (Proc.devRef .tc Cert.ReferenceIdeal.main_v2980)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb2 (i := 40) rfl) :) e172
  have e174 : @Eq ((⟨Cert.KernelIdeal.S32x131072, .f32⟩ : BufTy).Contents (Elt F)) (Φ₁ (Proc.devRef .tc Cert.KernelIdeal.main_v2963)) (Φ₂ (Proc.devRef .tc Cert.ReferenceIdeal.main_v2981)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb2 (i := 41) rfl) :) e128 e173
  have e175 : @Eq ((⟨Cert.KernelIdeal.S1x131072, .f32⟩ : BufTy).Contents (Elt F)) (Φ₁ (Proc.devRef .tc Cert.KernelIdeal.main_v2964)) (Φ₂ (Proc.devRef .tc Cert.ReferenceIdeal.main_v2982)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb2 (i := 42) rfl) :) e34
  have e176 : @Eq ((⟨Cert.KernelIdeal.S32x131072, .f32⟩ : BufTy).Contents (Elt F)) (Φ₁ (Proc.devRef .tc Cert.KernelIdeal.main_v2965)) (Φ₂ (Proc.devRef .tc Cert.ReferenceIdeal.main_v2983)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb2 (i := 43) rfl) :) e175
  have e177 : @Eq ((⟨Cert.KernelIdeal.S32x131072, .f32⟩ : BufTy).Contents (Elt F)) (Φ₁ (Proc.devRef .tc Cert.KernelIdeal.main_v2966)) (Φ₂ (Proc.devRef .tc Cert.ReferenceIdeal.main_v2984)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb2 (i := 44) rfl) :) e174 e176
  have e178 : @Eq ((⟨Cert.KernelIdeal.S32x131072, .f32⟩ : BufTy).Contents (Elt F)) (Φ₁ (Proc.devRef .tc Cert.KernelIdeal.main_v2967)) (Φ₂ (Proc.devRef .tc Cert.ReferenceIdeal.main_v2985)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb2 (i := 45) rfl) :) e168 e177
  have e179 : @Eq ((⟨Cert.KernelIdeal.S1x131072, .f32⟩ : BufTy).Contents (Elt F)) (Φ₁ (Proc.devRef .tc Cert.KernelIdeal.main_v2968)) (Φ₂ (Proc.devRef .tc Cert.ReferenceIdeal.main_v2986)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb2 (i := 46) rfl) :) e33
  have e180 : @Eq ((⟨Cert.KernelIdeal.S32x131072, .f32⟩ : BufTy).Contents (Elt F)) (Φ₁ (Proc.devRef .tc Cert.KernelIdeal.main_v2969)) (Φ₂ (Proc.devRef .tc Cert.ReferenceIdeal.main_v2987)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb2 (i := 47) rfl) :) e179
  have e181 : @Eq ((⟨Cert.KernelIdeal.S32x131072, .f32⟩ : BufTy).Contents (Elt F)) (Φ₁ (Proc.devRef .tc Cert.KernelIdeal.main_v2970)) (Φ₂ (Proc.devRef .tc Cert.ReferenceIdeal.main_v2988)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb2 (i := 48) rfl) :) e146 e180
  have e182 : @Eq ((⟨Cert.KernelIdeal.S1x131072, .f32⟩ : BufTy).Contents (Elt F)) (Φ₁ (Proc.devRef .tc Cert.KernelIdeal.main_v2971)) (Φ₂ (Proc.devRef .tc Cert.ReferenceIdeal.main_v2989)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb2 (i := 49) rfl) :) e34
  have e183 : @Eq ((⟨Cert.KernelIdeal.S32x131072, .f32⟩ : BufTy).Contents (Elt F)) (Φ₁ (Proc.devRef .tc Cert.KernelIdeal.main_v2972)) (Φ₂ (Proc.devRef .tc Cert.ReferenceIdeal.main_v2990)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb2 (i := 50) rfl) :) e182
  have e184 : @Eq ((⟨Cert.KernelIdeal.S32x131072, .f32⟩ : BufTy).Contents (Elt F)) (Φ₁ (Proc.devRef .tc Cert.KernelIdeal.main_v2973)) (Φ₂ (Proc.devRef .tc Cert.ReferenceIdeal.main_v2991)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb2 (i := 51) rfl) :) e181 e183
  have e185 : @Eq ((⟨Cert.KernelIdeal.S32x131072, .f32⟩ : BufTy).Contents (Elt F)) (Φ₁ (Proc.devRef .tc Cert.KernelIdeal.main_v2974)) (Φ₂ (Proc.devRef .tc Cert.ReferenceIdeal.main_v2992)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb2 (i := 52) rfl) :) e178 e184
  have e186 : @Eq ((⟨Cert.KernelIdeal.S131072x32, .f32⟩ : BufTy).Contents (Elt F)) (Φ₁ (Proc.devRef .tc Cert.KernelIdeal.main_v2975)) (Φ₂ (Proc.devRef .tc Cert.ReferenceIdeal.main_v2993)) := by rw [eq1 (at_ fa8 (i := 111) rfl), eq1 (at_ fb2 (i := 53) rfl), e185] <;> rfl
  exact e186

end Cert.Bridge

end
-- ==== Proof.SimB23.lean ====
/- Operations 4336 … 4522 of the one program and 4355 … 4541 of the other apply the same functions to corresponding
   buffers. If both programs' final contents satisfy their own lines' equations and agree on the buffers these operations
   read from outside, they agree on what these operations write: one congruence per operation, in program order. -/
import proofs.«133805_j10187662426200_2_alg».proof.Proof.KIStretch4
import proofs.«133805_j10187662426200_2_alg».proof.Proof.RefOps8
import proofs.«133805_j10187662426200_2_alg».proof.Proof.HostAt

set_option maxRecDepth 65536

noncomputable section

namespace Cert.Bridge

open Idealize.ShloMosaic Idealize.ShloMosaic.TcCoe Idealize.SL.Sem Idealize.ShloMosaic.StableHlo Cert.HostFold

variable {F : FTy → Type} [FloatOps F]

set_option maxHeartbeats 16000000 in
theorem B23 (Φ₁ : Valuation Cert.KernelIdeal.τ Cert.KernelIdeal.sig (Elt F)) (Φ₂ : Valuation Cert.ReferenceIdeal.τ Cert.ReferenceIdeal.sig (Elt F))
    (fa0 : (Cert.KernelIdeal.Gen.hostOps0_184 : List (HloOp Cert.KernelIdeal.τ Cert.KernelIdeal.sig (Elt F))).Forall fun op => ∀ b ∈ op.writes, Φ₁ b = op.result Φ₁ b)
    (fa1 : (Cert.KernelIdeal.Gen.hostOps0_185 : List (HloOp Cert.KernelIdeal.τ Cert.KernelIdeal.sig (Elt F))).Forall fun op => ∀ b ∈ op.writes, Φ₁ b = op.result Φ₁ b)
    (fa2 : (Cert.KernelIdeal.Gen.hostOps0_186 : List (HloOp Cert.KernelIdeal.τ Cert.KernelIdeal.sig (Elt F))).Forall fun op => ∀ b ∈ op.writes, Φ₁ b = op.result Φ₁ b)
    (fa3 : (Cert.KernelIdeal.Gen.hostOps0_187 : List (HloOp Cert.KernelIdeal.τ Cert.KernelIdeal.sig (Elt F))).Forall fun op => ∀ b ∈ op.writes, Φ₁ b = op.result Φ₁ b)
    (fa4 : (Cert.KernelIdeal.Gen.hostOps0_188 : List (HloOp Cert.KernelIdeal.τ Cert.KernelIdeal.sig (Elt F))).Forall fun op => ∀ b ∈ op.writes, Φ₁ b = op.result Φ₁ b)
    (fa5 : (Cert.KernelIdeal.Gen.hostOps0_189 : List (HloOp Cert.KernelIdeal.τ Cert.KernelIdeal.sig (Elt F))).Forall fun op => ∀ b ∈ op.writes, Φ₁ b = op.result Φ₁ b)
    (fa6 : (Cert.KernelIdeal.Gen.hostOps0_190 : List (HloOp Cert.KernelIdeal.τ Cert.KernelIdeal.sig (Elt F))).Forall fun op => ∀ b ∈ op.writes, Φ₁ b = op.result Φ₁ b)
    (fa7 : (Cert.KernelIdeal.Gen.hostOps0_191 : List (HloOp Cert.KernelIdeal.τ Cert.KernelIdeal.sig (Elt F))).Forall fun op => ∀ b ∈ op.writes, Φ₁ b = op.result Φ₁ b)
    (fa8 : (Cert.KernelIdeal.Gen.hostOps0_192 : List (HloOp Cert.KernelIdeal.τ Cert.KernelIdeal.sig (Elt F))).Forall fun op => ∀ b ∈ op.writes, Φ₁ b = op.result Φ₁ b)
    (fb0 : (Cert.ReferenceIdeal.Ops.w64 : List (HloOp Cert.ReferenceIdeal.τ Cert.ReferenceIdeal.sig (Elt F))).Forall fun op => ∀ b ∈ op.writes, Φ₂ b = op.result Φ₂ b)
    (fb1 : (Cert.ReferenceIdeal.Ops.w65 : List (HloOp Cert.ReferenceIdeal.τ Cert.ReferenceIdeal.sig (Elt F))).Forall fun op => ∀ b ∈ op.writes, Φ₂ b = op.result Φ₂ b)
    (fb2 : (Cert.ReferenceIdeal.Ops.w66 : List (HloOp Cert.ReferenceIdeal.τ Cert.ReferenceIdeal.sig (Elt F))).Forall fun op => ∀ b ∈ op.writes, Φ₂ b = op.result Φ₂ b)
    (fb3 : (Cert.ReferenceIdeal.Ops.w67 : List (HloOp Cert.ReferenceIdeal.τ Cert.ReferenceIdeal.sig (Elt F))).Forall fun op => ∀ b ∈ op.writes, Φ₂ b = op.result Φ₂ b)
    (x0 : @Eq ((⟨Cert.KernelIdeal.S2, .i32⟩ : BufTy).Contents (Elt F)) (Φ₁ (Proc.devRef .tc Cert.KernelIdeal.main_c_22)) (Φ₂ (Proc.devRef .tc Cert.ReferenceIdeal.main_c_22)))
    (x1 : @Eq ((⟨Cert.KernelIdeal.S131072x4, .f32⟩ : BufTy).Contents (Elt F)) (Φ₁ (Proc.devRef .tc Cert.KernelIdeal.main_v8)) (Φ₂ (Proc.devRef .tc Cert.ReferenceIdeal.main_v8)))
    (x2 : @Eq ((⟨Cert.KernelIdeal.S32x150x512, .f32⟩ : BufTy).Contents (Elt F)) (Φ₁ (Proc.devRef .tc Cert.KernelIdeal.main_arg25)) (Φ₂ (Proc.devRef .tc Cert.ReferenceIdeal.main_arg25)))
    : @Eq ((⟨Cert.KernelIdeal.S131072x32, .f32⟩ : BufTy).Contents (Elt F)) (Φ₁ (Proc.devRef .tc Cert.KernelIdeal.main_v3104)) (Φ₂ (Proc.devRef .tc Cert.ReferenceIdeal.main_v3123)) := by
  have e0 : @Eq ((⟨Cert.KernelIdeal.S_, .i32⟩ : BufTy).Contents (Elt F)) (Φ₁ (Proc.devRef .tc Cert.KernelIdeal.main_c_898)) (Φ₂ (Proc.devRef .tc Cert.ReferenceIdeal.main_c_898)) := step0 (β := ((⟨Cert.KernelIdeal.S_, .i32⟩ : BufTy).Contents (Elt F))) (eq0 (at_ fa0 (i := 112) rfl) :) (eq0 (at_ fb0 (i := 55) rfl) :)
  have e1 : @Eq ((⟨Cert.KernelIdeal.S2, .i32⟩ : BufTy).Contents (Elt F)) (Φ₁ (Proc.devRef .tc Cert.KernelIdeal.main_v2976)) (Φ₂ (Proc.devRef .tc Cert.ReferenceIdeal.main_v2995)) := step1 (α := ((⟨Cert.KernelIdeal.S_, .i32⟩ : BufTy).Contents (Elt F))) (β := ((⟨Cert.KernelIdeal.S2, .i32⟩ : BufTy).Contents (Elt F))) (eq1 (at_ fa0 (i := 113) rfl) :) (eq1 (at_ fb0 (i := 56) rfl) :) e0
  have e2 : @Eq ((⟨Cert.KernelIdeal.S2, .i1⟩ : BufTy).Contents (Elt F)) (Φ₁ (Proc.devRef .tc Cert.KernelIdeal.main_v2977)) (Φ₂ (Proc.devRef .tc Cert.ReferenceIdeal.main_v2996)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i1⟩ : BufTy).Contents (Elt F))) (eq2 (at_ fa0 (i := 114) rfl) :) (eq2 (at_ fb0 (i := 57) rfl) :) x0 e1
  have e3 : @Eq ((⟨Cert.KernelIdeal.S_, .i32⟩ : BufTy).Contents (Elt F)) (Φ₁ (Proc.devRef .tc Cert.KernelIdeal.main_c_899)) (Φ₂ (Proc.devRef .tc Cert.ReferenceIdeal.main_c_899)) := step0 (β := ((⟨Cert.KernelIdeal.S_, .i32⟩ : BufTy).Contents (Elt F))) (eq0 (at_ fa0 (i := 115) rfl) :) (eq0 (at_ fb0 (i := 58) rfl) :)
  have e4 : @Eq ((⟨Cert.KernelIdeal.S2, .i32⟩ : BufTy).Contents (Elt F)) (Φ₁ (Proc.devRef .tc Cert.KernelIdeal.main_v2978)) (Φ₂ (Proc.devRef .tc Cert.ReferenceIdeal.main_v2997)) := step1 (α := ((⟨Cert.KernelIdeal.S_, .i32⟩ : BufTy).Contents (Elt F))) (β := ((⟨Cert.KernelIdeal.S2, .i32⟩ : BufTy).Contents (Elt F))) (eq1 (at_ fa0 (i := 116) rfl) :) (eq1 (at_ fb0 (i := 59) rfl) :) e3
  have e5 : @Eq ((⟨Cert.KernelIdeal.S2, .i32⟩ : BufTy).Contents (Elt F)) (Φ₁ (Proc.devRef .tc Cert.KernelIdeal.main_v2979)) (Φ₂ (Proc.devRef .tc Cert.ReferenceIdeal.main_v2998)) := step2 (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq2 (at_ fa0 (i := 117) rfl) :) (eq2 (at_ fb1 (i := 0) rfl) :) x0 e4
  have e6 : @Eq ((⟨Cert.KernelIdeal.S2, .i32⟩ : BufTy).Contents (Elt F)) (Φ₁ (Proc.devRef .tc Cert.KernelIdeal.main_v2980)) (Φ₂ (Proc.devRef .tc Cert.ReferenceIdeal.main_v2999)) := step3 (α₀ := ((⟨Cert.KernelIdeal.S2, .i1⟩ : BufTy).Contents (Elt F))) (α₁ := ((⟨Cert.KernelIdeal.S2, .i32⟩ : BufTy).Contents (Elt F))) (α₂ := ((⟨Cert.KernelIdeal.S2, .i32⟩ : BufTy).Contents (Elt F))) (β := ((⟨Cert.KernelIdeal.S2, .i32⟩ : BufTy).Contents (Elt F))) (eq3 (at_ fa0 (i := 118) rfl) :) (eq3 (at_ fb1 (i := 1) rfl) :) e2 e5 x0
  have e7 : @Eq ((⟨Cert.KernelIdeal.S2x1, .i32⟩ : BufTy).Contents (Elt F)) (Φ₁ (Proc.devRef .tc Cert.KernelIdeal.main_v2981)) (Φ₂ (Proc.devRef .tc Cert.ReferenceIdeal.main_v3000)) := step1 (α := ((⟨Cert.KernelIdeal.S2, .i32⟩ : BufTy).Contents (Elt F))) (β := ((⟨Cert.KernelIdeal.S2x1, .i32⟩ : BufTy).Contents (Elt F))) (eq1 (at_ fa0 (i := 119) rfl) :) (eq1 (at_ fb1 (i := 2) rfl) :) e6
  have e8 : @Eq ((⟨Cert.KernelIdeal.S131072x2, .f32⟩ : BufTy).Contents (Elt F)) (Φ₁ (Proc.devRef .tc Cert.KernelIdeal.main_v2982)) (Φ₂ (Proc.devRef .tc Cert.ReferenceIdeal.main_v3001)) := by rw [eq2 (at_ fa0 (i := 120) rfl), eq2 (at_ fb1 (i := 3) rfl), x1, e7] <;> rfl
  have e9 : @Eq ((⟨Cert.KernelIdeal.S131072x1, .f32⟩ : BufTy).Contents (Elt F)) (Φ₁ (Proc.devRef .tc Cert.KernelIdeal.main_v2983)) (Φ₂ (Proc.devRef .tc Cert.ReferenceIdeal.main_v3002)) := by rw [eq1 (at_ fa0 (i := 121) rfl), eq1 (at_ fb1 (i := 4) rfl), e8] <;> rfl
  have e10 : @Eq ((⟨Cert.KernelIdeal.S131072, .f32⟩ : BufTy).Contents (Elt F)) (Φ₁ (Proc.devRef .tc Cert.KernelIdeal.main_v2984)) (Φ₂ (Proc.devRef .tc Cert.ReferenceIdeal.main_v3003)) := step1 (α := ((⟨Cert.KernelIdeal.S131072x1, .f32⟩ : BufTy).Contents (Elt F))) (β := ((⟨Cert.KernelIdeal.S131072, .f32⟩ : BufTy).Contents (Elt F))) (eqR (at_ fa0 (i := 122) rfl) :) (eqR (at_ fb1 (i := 5) rfl) :) e9
  have e11 : @Eq ((⟨Cert.KernelIdeal.S_, .f32⟩ : BufTy).Contents (Elt F)) (Φ₁ (Proc.devRef .tc Cert.KernelIdeal.main_cst_900)) (Φ₂ (Proc.devRef .tc Cert.ReferenceIdeal.main_cst_900)) := step0 (β := ((⟨Cert.KernelIdeal.S_, .f32⟩ : BufTy).Contents (Elt F))) (eq0 (at_ fa0 (i := 123) rfl) :) (eq0 (at_ fb1 (i := 6) rfl) :)
  have e12 : @Eq ((⟨Cert.KernelIdeal.S131072, .f32⟩ : BufTy).Contents (Elt F)) (Φ₁ (Proc.devRef .tc Cert.KernelIdeal.main_v2985)) (Φ₂ (Proc.devRef .tc Cert.ReferenceIdeal.main_v3004)) := step1 (α := ((⟨Cert.KernelIdeal.S_, .f32⟩ : BufTy).Contents (Elt F))) (β := ((⟨Cert.KernelIdeal.S131072, .f32⟩ : BufTy).Contents (Elt F))) (eq1 (at_ fa0 (i := 124) rfl) :) (eq1 (at_ fb1 (i := 7) rfl) :) e11
  have e13 : @Eq ((⟨Cert.KernelIdeal.S131072, .f32⟩ : BufTy).Contents (Elt F)) (Φ₁ (Proc.devRef .tc Cert.KernelIdeal.main_v2986)) (Φ₂ (Proc.devRef .tc Cert.ReferenceIdeal.main_v3005)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 125) rfl) :) (eq2 (at_ fb1 (i := 8) rfl) :) e10 e12
  have e14 : @Eq ((⟨Cert.KernelIdeal.S_, .f32⟩ : BufTy).Contents (Elt F)) (Φ₁ (Proc.devRef .tc Cert.KernelIdeal.main_cst_901)) (Φ₂ (Proc.devRef .tc Cert.ReferenceIdeal.main_cst_901)) := step0 (β := ((⟨Cert.KernelIdeal.S_, .f32⟩ : BufTy).Contents (Elt F))) (eq0 (at_ fa0 (i := 126) rfl) :) (eq0 (at_ fb1 (i := 9) rfl) :)
  have e15 : @Eq ((⟨Cert.KernelIdeal.S131072, .f32⟩ : BufTy).Contents (Elt F)) (Φ₁ (Proc.devRef .tc Cert.KernelIdeal.main_v2987)) (Φ₂ (Proc.devRef .tc Cert.ReferenceIdeal.main_v3006)) := step1 (α := ((⟨Cert.KernelIdeal.S_, .f32⟩ : BufTy).Contents (Elt F))) (β := ((⟨Cert.KernelIdeal.S131072, .f32⟩ : BufTy).Contents (Elt F))) (eq1 (at_ fa0 (i := 127) rfl) :) (eq1 (at_ fb1 (i := 10) rfl) :) e14
  have e16 : @Eq ((⟨Cert.KernelIdeal.S131072, .f32⟩ : BufTy).Contents (Elt F)) (Φ₁ (Proc.devRef .tc Cert.KernelIdeal.main_v2988)) (Φ₂ (Proc.devRef .tc Cert.ReferenceIdeal.main_v3007)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 128) rfl) :) (eq2 (at_ fb1 (i := 11) rfl) :) e13 e15
  have e17 : @Eq ((⟨Cert.KernelIdeal.S_, .f32⟩ : BufTy).Contents (Elt F)) (Φ₁ (Proc.devRef .tc Cert.KernelIdeal.main_cst_902)) (Φ₂ (Proc.devRef .tc Cert.ReferenceIdeal.main_cst_902)) := step0 (β := ((⟨Cert.KernelIdeal.S_, .f32⟩ : BufTy).Contents (Elt F))) (eq0 (at_ fa0 (i := 129) rfl) :) (eq0 (at_ fb1 (i := 12) rfl) :)
  have e18 : @Eq ((⟨Cert.KernelIdeal.S131072, .f32⟩ : BufTy).Contents (Elt F)) (Φ₁ (Proc.devRef .tc Cert.KernelIdeal.main_v2989)) (Φ₂ (Proc.devRef .tc Cert.ReferenceIdeal.main_v3008)) := step1 (α := ((⟨Cert.KernelIdeal.S_, .f32⟩ : BufTy).Contents (Elt F))) (β := ((⟨Cert.KernelIdeal.S131072, .f32⟩ : BufTy).Contents (Elt F))) (eq1 (at_ fa0 (i := 130) rfl) :) (eq1 (at_ fb1 (i := 13) rfl) :) e17
  have e19 : @Eq ((⟨Cert.KernelIdeal.S131072, .f32⟩ : BufTy).Contents (Elt F)) (Φ₁ (Proc.devRef .tc Cert.KernelIdeal.main_v2990)) (Φ₂ (Proc.devRef .tc Cert.ReferenceIdeal.main_v3009)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 131) rfl) :) (eq2 (at_ fb1 (i := 14) rfl) :) e16 e18
  have e20 : @Eq ((⟨Cert.KernelIdeal.S131072x1, .f32⟩ : BufTy).Contents (Elt F)) (Φ₁ (Proc.devRef .tc Cert.KernelIdeal.main_v2991)) (Φ₂ (Proc.devRef .tc Cert.ReferenceIdeal.main_v3010)) := by rw [eq1 (at_ fa0 (i := 132) rfl), eq1 (at_ fb1 (i := 15) rfl), e8] <;> rfl
  have e21 : @Eq ((⟨Cert.KernelIdeal.S131072, .f32⟩ : BufTy).Contents (Elt F)) (Φ₁ (Proc.devRef .tc Cert.KernelIdeal.main_v2992)) (Φ₂ (Proc.devRef .tc Cert.ReferenceIdeal.main_v3011)) := step1 (α := ((⟨Cert.KernelIdeal.S131072x1, .f32⟩ : BufTy).Contents (Elt F))) (β := ((⟨Cert.KernelIdeal.S131072, .f32⟩ : BufTy).Contents (Elt F))) (eqR (at_ fa0 (i := 133) rfl) :) (eqR (at_ fb1 (i := 16) rfl) :) e20
  have e22 : @Eq ((⟨Cert.KernelIdeal.S_, .f32⟩ : BufTy).Contents (Elt F)) (Φ₁ (Proc.devRef .tc Cert.KernelIdeal.main_cst_903)) (Φ₂ (Proc.devRef .tc Cert.ReferenceIdeal.main_cst_903)) := step0 (β := ((⟨Cert.KernelIdeal.S_, .f32⟩ : BufTy).Contents (Elt F))) (eq0 (at_ fa0 (i := 134) rfl) :) (eq0 (at_ fb1 (i := 17) rfl) :)
  have e23 : @Eq ((⟨Cert.KernelIdeal.S131072, .f32⟩ : BufTy).Contents (Elt F)) (Φ₁ (Proc.devRef .tc Cert.KernelIdeal.main_v2993)) (Φ₂ (Proc.devRef .tc Cert.ReferenceIdeal.main_v3012)) := step1 (α := ((⟨Cert.KernelIdeal.S_, .f32⟩ : BufTy).Contents (Elt F))) (β := ((⟨Cert.KernelIdeal.S131072, .f32⟩ : BufTy).Contents (Elt F))) (eq1 (at_ fa0 (i := 135) rfl) :) (eq1 (at_ fb1 (i := 18) rfl) :) e22
  have e24 : @Eq ((⟨Cert.KernelIdeal.S131072, .f32⟩ : BufTy).Contents (Elt F)) (Φ₁ (Proc.devRef .tc Cert.KernelIdeal.main_v2994)) (Φ₂ (Proc.devRef .tc Cert.ReferenceIdeal.main_v3013)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 136) rfl) :) (eq2 (at_ fb1 (i := 19) rfl) :) e21 e23
  have e25 : @Eq ((⟨Cert.KernelIdeal.S_, .f32⟩ : BufTy).Contents (Elt F)) (Φ₁ (Proc.devRef .tc Cert.KernelIdeal.main_cst_904)) (Φ₂ (Proc.devRef .tc Cert.ReferenceIdeal.main_cst_904)) := step0 (β := ((⟨Cert.KernelIdeal.S_, .f32⟩ : BufTy).Contents (Elt F))) (eq0 (at_ fa0 (i := 137) rfl) :) (eq0 (at_ fb1 (i := 20) rfl) :)
  have e26 : @Eq ((⟨Cert.KernelIdeal.S131072, .f32⟩ : BufTy).Contents (Elt F)) (Φ₁ (Proc.devRef .tc Cert.KernelIdeal.main_v2995)) (Φ₂ (Proc.devRef .tc Cert.ReferenceIdeal.main_v3014)) := step1 (α := ((⟨Cert.KernelIdeal.S_, .f32⟩ : BufTy).Contents (Elt F))) (β := ((⟨Cert.KernelIdeal.S131072, .f32⟩ : BufTy).Contents (Elt F))) (eq1 (at_ fa0 (i := 138) rfl) :) (eq1 (at_ fb1 (i := 21) rfl) :) e25
  have e27 : @Eq ((⟨Cert.KernelIdeal.S131072, .f32⟩ : BufTy).Contents (Elt F)) (Φ₁ (Proc.devRef .tc Cert.KernelIdeal.main_v2996)) (Φ₂ (Proc.devRef .tc Cert.ReferenceIdeal.main_v3015)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 139) rfl) :) (eq2 (at_ fb1 (i := 22) rfl) :) e24 e26
  have e28 : @Eq ((⟨Cert.KernelIdeal.S_, .f32⟩ : BufTy).Contents (Elt F)) (Φ₁ (Proc.devRef .tc Cert.KernelIdeal.main_cst_905)) (Φ₂ (Proc.devRef .tc Cert.ReferenceIdeal.main_cst_905)) := step0 (β := ((⟨Cert.KernelIdeal.S_, .f32⟩ : BufTy).Contents (Elt F))) (eq0 (at_ fa0 (i := 140) rfl) :) (eq0 (at_ fb1 (i := 23) rfl) :)
  have e29 : @Eq ((⟨Cert.KernelIdeal.S131072, .f32⟩ : BufTy).Contents (Elt F)) (Φ₁ (Proc.devRef .tc Cert.KernelIdeal.main_v2997)) (Φ₂ (Proc.devRef .tc Cert.ReferenceIdeal.main_v3016)) := step1 (α := ((⟨Cert.KernelIdeal.S_, .f32⟩ : BufTy).Contents (Elt F))) (β := ((⟨Cert.KernelIdeal.S131072, .f32⟩ : BufTy).Contents (Elt F))) (eq1 (at_ fa0 (i := 141) rfl) :) (eq1 (at_ fb1 (i := 24) rfl) :) e28
  have e30 : @Eq ((⟨Cert.KernelIdeal.S131072, .f32⟩ : BufTy).Contents (Elt F)) (Φ₁ (Proc.devRef .tc Cert.KernelIdeal.main_v2998)) (Φ₂ (Proc.devRef .tc Cert.ReferenceIdeal.main_v3017)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 142) rfl) :) (eq2 (at_ fb1 (i := 25) rfl) :) e27 e29
  have e31 : @Eq ((⟨Cert.KernelIdeal.S131072, .f32⟩ : BufTy).Contents (Elt F)) (Φ₁ (Proc.devRef .tc Cert.KernelIdeal.main_v2999)) (Φ₂ (Proc.devRef .tc Cert.ReferenceIdeal.main_v3018)) := step1 (α := ((⟨Cert.KernelIdeal.S131072, .f32⟩ : BufTy).Contents (Elt F))) (β := ((⟨Cert.KernelIdeal.S131072, .f32⟩ : BufTy).Contents (Elt F))) (eq1 (at_ fa0 (i := 143) rfl) :) (eq1 (at_ fb1 (i := 26) rfl) :) e19
  have e32 : @Eq ((⟨Cert.KernelIdeal.S131072, .f32⟩ : BufTy).Contents (Elt F)) (Φ₁ (Proc.devRef .tc Cert.KernelIdeal.main_v3000)) (Φ₂ (Proc.devRef .tc Cert.ReferenceIdeal.main_v3019)) := step1 (α := ((⟨Cert.KernelIdeal.S131072, .f32⟩ : BufTy).Contents (Elt F))) (β := ((⟨Cert.KernelIdeal.S131072, .f32⟩ : BufTy).Contents (Elt F))) (eq1 (at_ fa0 (i := 144) rfl) :) (eq1 (at_ fb1 (i := 27) rfl) :) e30
  have e33 : @Eq ((⟨Cert.KernelIdeal.S131072, .f32⟩ : BufTy).Contents (Elt F)) (Φ₁ (Proc.devRef .tc Cert.KernelIdeal.main_v3001)) (Φ₂ (Proc.devRef .tc Cert.ReferenceIdeal.main_v3020)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 145) rfl) :) (eq2 (at_ fb1 (i := 28) rfl) :) e19 e31
  have e34 : @Eq ((⟨Cert.KernelIdeal.S131072, .f32⟩ : BufTy).Contents (Elt F)) (Φ₁ (Proc.devRef .tc Cert.KernelIdeal.main_v3002)) (Φ₂ (Proc.devRef .tc Cert.ReferenceIdeal.main_v3021)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa0 (i := 146) rfl) :) (eq2 (at_ fb1 (i := 29) rfl) :) e30 e32
  have e35 : @Eq ((⟨Cert.KernelIdeal.S131072, .i32⟩ : BufTy).Contents (Elt F)) (Φ₁ (Proc.devRef .tc Cert.KernelIdeal.main_v3003)) (Φ₂ (Proc.devRef .tc Cert.ReferenceIdeal.main_v3022)) := step1 (α := ((⟨Cert.KernelIdeal.S131072, .f32⟩ : BufTy).Contents (Elt F))) (β := ((⟨Cert.KernelIdeal.S131072, .i32⟩ : BufTy).Contents (Elt F))) (eq1 (at_ fa0 (i := 147) rfl) :) (eq1 (at_ fb1 (i := 30) rfl) :) e31
  have e36 : @Eq ((⟨Cert.KernelIdeal.S_, .i32⟩ : BufTy).Contents (Elt F)) (Φ₁ (Proc.devRef .tc Cert.KernelIdeal.main_c_906)) (Φ₂ (Proc.devRef .tc Cert.ReferenceIdeal.main_c_906)) := step0 (β := ((⟨Cert.KernelIdeal.S_, .i32⟩ : BufTy).Contents (Elt F))) (eq0 (at_ fa0 (i := 148) rfl) :) (eq0 (at_ fb1 (i := 31) rfl) :)
  have e37 : @Eq ((⟨Cert.KernelIdeal.S_, .i32⟩ : BufTy).Contents (Elt F)) (Φ₁ (Proc.devRef .tc Cert.KernelIdeal.main_c_907)) (Φ₂ (Proc.devRef .tc Cert.ReferenceIdeal.main_c_907)) := step0 (β := ((⟨Cert.KernelIdeal.S_, .i32⟩ : BufTy).Contents (Elt F))) (eq0 (at_ fa0 (i := 149) rfl) :) (eq0 (at_ fb1 (i := 32) rfl) :)
  have e38 : @Eq ((⟨Cert.KernelIdeal.S_, .i32⟩ : BufTy).Contents (Elt F)) (Φ₁ (Proc.devRef .tc Cert.KernelIdeal.main_call92_v0)) (Φ₂ (Proc.devRef .tc Cert.ReferenceIdeal.main_call92_v0)) := step1 (α := ((⟨Cert.KernelIdeal.S_, .i32⟩ : BufTy).Contents (Elt F))) (β := ((⟨Cert.KernelIdeal.S_, .i32⟩ : BufTy).Contents (Elt F))) (eqT1 (at_ fa1 (i := 0) rfl) :) (eqT1 (at_ fb1 (i := 33) rfl) :) e36
  have e39 : @Eq ((⟨Cert.KernelIdeal.S131072, .i32⟩ : BufTy).Contents (Elt F)) (Φ₁ (Proc.devRef .tc Cert.KernelIdeal.main_call92_v1)) (Φ₂ (Proc.devRef .tc Cert.ReferenceIdeal.main_call92_v1)) := step1 (α := ((⟨Cert.KernelIdeal.S_, .i32⟩ : BufTy).Contents (Elt F))) (β := ((⟨Cert.KernelIdeal.S131072, .i32⟩ : BufTy).Contents (Elt F))) (eqT1 (at_ fa1 (i := 1) rfl) :) (eqT1 (at_ fb1 (i := 34) rfl) :) e38
  have e40 : @Eq ((⟨Cert.KernelIdeal.S131072, .i32⟩ : BufTy).Contents (Elt F)) (Φ₁ (Proc.devRef .tc Cert.KernelIdeal.main_call92_v2)) (Φ₂ (Proc.devRef .tc Cert.ReferenceIdeal.main_call92_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 2) rfl) :) (eqT2 (at_ fb1 (i := 35) rfl) :) e39 e35
  have e41 : @Eq ((⟨Cert.KernelIdeal.S_, .i32⟩ : BufTy).Contents (Elt F)) (Φ₁ (Proc.devRef .tc Cert.KernelIdeal.main_call92_v3)) (Φ₂ (Proc.devRef .tc Cert.ReferenceIdeal.main_call92_v3)) := step1 (α := ((⟨Cert.KernelIdeal.S_, .i32⟩ : BufTy).Contents (Elt F))) (β := ((⟨Cert.KernelIdeal.S_, .i32⟩ : BufTy).Contents (Elt F))) (eqT1 (at_ fa1 (i := 3) rfl) :) (eqT1 (at_ fb1 (i := 36) rfl) :) e37
  have e42 : @Eq ((⟨Cert.KernelIdeal.S131072, .i32⟩ : BufTy).Contents (Elt F)) (Φ₁ (Proc.devRef .tc Cert.KernelIdeal.main_call92_v4)) (Φ₂ (Proc.devRef .tc Cert.ReferenceIdeal.main_call92_v4)) := step1 (α := ((⟨Cert.KernelIdeal.S_, .i32⟩ : BufTy).Contents (Elt F))) (β := ((⟨Cert.KernelIdeal.S131072, .i32⟩ : BufTy).Contents (Elt F))) (eqT1 (at_ fa1 (i := 4) rfl) :) (eqT1 (at_ fb1 (i := 37) rfl) :) e41
  have e43 : @Eq ((⟨Cert.KernelIdeal.S131072, .i32⟩ : BufTy).Contents (Elt F)) (Φ₁ (Proc.devRef .tc Cert.KernelIdeal.main_v3004)) (Φ₂ (Proc.devRef .tc Cert.ReferenceIdeal.main_v3023)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa1 (i := 5) rfl) :) (eqT2 (at_ fb1 (i := 38) rfl) :) e42 e40
  have e44 : @Eq ((⟨Cert.KernelIdeal.S_, .i32⟩ : BufTy).Contents (Elt F)) (Φ₁ (Proc.devRef .tc Cert.KernelIdeal.main_c_908)) (Φ₂ (Proc.devRef .tc Cert.ReferenceIdeal.main_c_908)) := step0 (β := ((⟨Cert.KernelIdeal.S_, .i32⟩ : BufTy).Contents (Elt F))) (eq0 (at_ fa2 (i := 0) rfl) :) (eq0 (at_ fb1 (i := 39) rfl) :)
  have e45 : @Eq ((⟨Cert.KernelIdeal.S131072, .i32⟩ : BufTy).Contents (Elt F)) (Φ₁ (Proc.devRef .tc Cert.KernelIdeal.main_v3005)) (Φ₂ (Proc.devRef .tc Cert.ReferenceIdeal.main_v3024)) := step1 (α := ((⟨Cert.KernelIdeal.S_, .i32⟩ : BufTy).Contents (Elt F))) (β := ((⟨Cert.KernelIdeal.S131072, .i32⟩ : BufTy).Contents (Elt F))) (eq1 (at_ fa2 (i := 1) rfl) :) (eq1 (at_ fb1 (i := 40) rfl) :) e44
  have e46 : @Eq ((⟨Cert.KernelIdeal.S131072, .i32⟩ : BufTy).Contents (Elt F)) (Φ₁ (Proc.devRef .tc Cert.KernelIdeal.main_v3006)) (Φ₂ (Proc.devRef .tc Cert.ReferenceIdeal.main_v3025)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa2 (i := 2) rfl) :) (eq2 (at_ fb1 (i := 41) rfl) :) e43 e45
  have e47 : @Eq ((⟨Cert.KernelIdeal.S_, .i32⟩ : BufTy).Contents (Elt F)) (Φ₁ (Proc.devRef .tc Cert.KernelIdeal.main_c_909)) (Φ₂ (Proc.devRef .tc Cert.ReferenceIdeal.main_c_909)) := step0 (β := ((⟨Cert.KernelIdeal.S_, .i32⟩ : BufTy).Contents (Elt F))) (eq0 (at_ fa2 (i := 3) rfl) :) (eq0 (at_ fb1 (i := 42) rfl) :)
  have e48 : @Eq ((⟨Cert.KernelIdeal.S_, .i32⟩ : BufTy).Contents (Elt F)) (Φ₁ (Proc.devRef .tc Cert.KernelIdeal.main_c_910)) (Φ₂ (Proc.devRef .tc Cert.ReferenceIdeal.main_c_910)) := step0 (β := ((⟨Cert.KernelIdeal.S_, .i32⟩ : BufTy).Contents (Elt F))) (eq0 (at_ fa2 (i := 4) rfl) :) (eq0 (at_ fb1 (i := 43) rfl) :)
  have e49 : @Eq ((⟨Cert.KernelIdeal.S_, .i32⟩ : BufTy).Contents (Elt F)) (Φ₁ (Proc.devRef .tc Cert.KernelIdeal.main_call93_v0)) (Φ₂ (Proc.devRef .tc Cert.ReferenceIdeal.main_call93_v0)) := step1 (α := ((⟨Cert.KernelIdeal.S_, .i32⟩ : BufTy).Contents (Elt F))) (β := ((⟨Cert.KernelIdeal.S_, .i32⟩ : BufTy).Contents (Elt F))) (eqT1 (at_ fa3 (i := 0) rfl) :) (eqT1 (at_ fb1 (i := 44) rfl) :) e47
  have e50 : @Eq ((⟨Cert.KernelIdeal.S131072, .i32⟩ : BufTy).Contents (Elt F)) (Φ₁ (Proc.devRef .tc Cert.KernelIdeal.main_call93_v1)) (Φ₂ (Proc.devRef .tc Cert.ReferenceIdeal.main_call93_v1)) := step1 (α := ((⟨Cert.KernelIdeal.S_, .i32⟩ : BufTy).Contents (Elt F))) (β := ((⟨Cert.KernelIdeal.S131072, .i32⟩ : BufTy).Contents (Elt F))) (eqT1 (at_ fa3 (i := 1) rfl) :) (eqT1 (at_ fb1 (i := 45) rfl) :) e49
  have e51 : @Eq ((⟨Cert.KernelIdeal.S131072, .i32⟩ : BufTy).Contents (Elt F)) (Φ₁ (Proc.devRef .tc Cert.KernelIdeal.main_call93_v2)) (Φ₂ (Proc.devRef .tc Cert.ReferenceIdeal.main_call93_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 2) rfl) :) (eqT2 (at_ fb1 (i := 46) rfl) :) e50 e46
  have e52 : @Eq ((⟨Cert.KernelIdeal.S_, .i32⟩ : BufTy).Contents (Elt F)) (Φ₁ (Proc.devRef .tc Cert.KernelIdeal.main_call93_v3)) (Φ₂ (Proc.devRef .tc Cert.ReferenceIdeal.main_call93_v3)) := step1 (α := ((⟨Cert.KernelIdeal.S_, .i32⟩ : BufTy).Contents (Elt F))) (β := ((⟨Cert.KernelIdeal.S_, .i32⟩ : BufTy).Contents (Elt F))) (eqT1 (at_ fa3 (i := 3) rfl) :) (eqT1 (at_ fb1 (i := 47) rfl) :) e48
  have e53 : @Eq ((⟨Cert.KernelIdeal.S131072, .i32⟩ : BufTy).Contents (Elt F)) (Φ₁ (Proc.devRef .tc Cert.KernelIdeal.main_call93_v4)) (Φ₂ (Proc.devRef .tc Cert.ReferenceIdeal.main_call93_v4)) := step1 (α := ((⟨Cert.KernelIdeal.S_, .i32⟩ : BufTy).Contents (Elt F))) (β := ((⟨Cert.KernelIdeal.S131072, .i32⟩ : BufTy).Contents (Elt F))) (eqT1 (at_ fa3 (i := 4) rfl) :) (eqT1 (at_ fb1 (i := 48) rfl) :) e52
  have e54 : @Eq ((⟨Cert.KernelIdeal.S131072, .i32⟩ : BufTy).Contents (Elt F)) (Φ₁ (Proc.devRef .tc Cert.KernelIdeal.main_v3007)) (Φ₂ (Proc.devRef .tc Cert.ReferenceIdeal.main_v3026)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa3 (i := 5) rfl) :) (eqT2 (at_ fb1 (i := 49) rfl) :) e53 e51
  have e55 : @Eq ((⟨Cert.KernelIdeal.S131072, .i32⟩ : BufTy).Contents (Elt F)) (Φ₁ (Proc.devRef .tc Cert.KernelIdeal.main_v3008)) (Φ₂ (Proc.devRef .tc Cert.ReferenceIdeal.main_v3027)) := step1 (α := ((⟨Cert.KernelIdeal.S131072, .f32⟩ : BufTy).Contents (Elt F))) (β := ((⟨Cert.KernelIdeal.S131072, .i32⟩ : BufTy).Contents (Elt F))) (eq1 (at_ fa4 (i := 0) rfl) :) (eq1 (at_ fb1 (i := 50) rfl) :) e32
  have e56 : @Eq ((⟨Cert.KernelIdeal.S_, .i32⟩ : BufTy).Contents (Elt F)) (Φ₁ (Proc.devRef .tc Cert.KernelIdeal.main_c_911)) (Φ₂ (Proc.devRef .tc Cert.ReferenceIdeal.main_c_911)) := step0 (β := ((⟨Cert.KernelIdeal.S_, .i32⟩ : BufTy).Contents (Elt F))) (eq0 (at_ fa4 (i := 1) rfl) :) (eq0 (at_ fb1 (i := 51) rfl) :)
  have e57 : @Eq ((⟨Cert.KernelIdeal.S_, .i32⟩ : BufTy).Contents (Elt F)) (Φ₁ (Proc.devRef .tc Cert.KernelIdeal.main_c_912)) (Φ₂ (Proc.devRef .tc Cert.ReferenceIdeal.main_c_912)) := step0 (β := ((⟨Cert.KernelIdeal.S_, .i32⟩ : BufTy).Contents (Elt F))) (eq0 (at_ fa4 (i := 2) rfl) :) (eq0 (at_ fb1 (i := 52) rfl) :)
  have e58 : @Eq ((⟨Cert.KernelIdeal.S_, .i32⟩ : BufTy).Contents (Elt F)) (Φ₁ (Proc.devRef .tc Cert.KernelIdeal.main_call94_v0)) (Φ₂ (Proc.devRef .tc Cert.ReferenceIdeal.main_call94_v0)) := step1 (α := ((⟨Cert.KernelIdeal.S_, .i32⟩ : BufTy).Contents (Elt F))) (β := ((⟨Cert.KernelIdeal.S_, .i32⟩ : BufTy).Contents (Elt F))) (eqT1 (at_ fa5 (i := 0) rfl) :) (eqT1 (at_ fb1 (i := 53) rfl) :) e56
  have e59 : @Eq ((⟨Cert.KernelIdeal.S131072, .i32⟩ : BufTy).Contents (Elt F)) (Φ₁ (Proc.devRef .tc Cert.KernelIdeal.main_call94_v1)) (Φ₂ (Proc.devRef .tc Cert.ReferenceIdeal.main_call94_v1)) := step1 (α := ((⟨Cert.KernelIdeal.S_, .i32⟩ : BufTy).Contents (Elt F))) (β := ((⟨Cert.KernelIdeal.S131072, .i32⟩ : BufTy).Contents (Elt F))) (eqT1 (at_ fa5 (i := 1) rfl) :) (eqT1 (at_ fb1 (i := 54) rfl) :) e58
  have e60 : @Eq ((⟨Cert.KernelIdeal.S131072, .i32⟩ : BufTy).Contents (Elt F)) (Φ₁ (Proc.devRef .tc Cert.KernelIdeal.main_call94_v2)) (Φ₂ (Proc.devRef .tc Cert.ReferenceIdeal.main_call94_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 2) rfl) :) (eqT2 (at_ fb1 (i := 55) rfl) :) e59 e55
  have e61 : @Eq ((⟨Cert.KernelIdeal.S_, .i32⟩ : BufTy).Contents (Elt F)) (Φ₁ (Proc.devRef .tc Cert.KernelIdeal.main_call94_v3)) (Φ₂ (Proc.devRef .tc Cert.ReferenceIdeal.main_call94_v3)) := step1 (α := ((⟨Cert.KernelIdeal.S_, .i32⟩ : BufTy).Contents (Elt F))) (β := ((⟨Cert.KernelIdeal.S_, .i32⟩ : BufTy).Contents (Elt F))) (eqT1 (at_ fa5 (i := 3) rfl) :) (eqT1 (at_ fb1 (i := 56) rfl) :) e57
  have e62 : @Eq ((⟨Cert.KernelIdeal.S131072, .i32⟩ : BufTy).Contents (Elt F)) (Φ₁ (Proc.devRef .tc Cert.KernelIdeal.main_call94_v4)) (Φ₂ (Proc.devRef .tc Cert.ReferenceIdeal.main_call94_v4)) := step1 (α := ((⟨Cert.KernelIdeal.S_, .i32⟩ : BufTy).Contents (Elt F))) (β := ((⟨Cert.KernelIdeal.S131072, .i32⟩ : BufTy).Contents (Elt F))) (eqT1 (at_ fa5 (i := 4) rfl) :) (eqT1 (at_ fb1 (i := 57) rfl) :) e61
  have e63 : @Eq ((⟨Cert.KernelIdeal.S131072, .i32⟩ : BufTy).Contents (Elt F)) (Φ₁ (Proc.devRef .tc Cert.KernelIdeal.main_v3009)) (Φ₂ (Proc.devRef .tc Cert.ReferenceIdeal.main_v3028)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa5 (i := 5) rfl) :) (eqT2 (at_ fb1 (i := 58) rfl) :) e62 e60
  have e64 : @Eq ((⟨Cert.KernelIdeal.S_, .i32⟩ : BufTy).Contents (Elt F)) (Φ₁ (Proc.devRef .tc Cert.KernelIdeal.main_c_913)) (Φ₂ (Proc.devRef .tc Cert.ReferenceIdeal.main_c_913)) := step0 (β := ((⟨Cert.KernelIdeal.S_, .i32⟩ : BufTy).Contents (Elt F))) (eq0 (at_ fa6 (i := 0) rfl) :) (eq0 (at_ fb1 (i := 59) rfl) :)
  have e65 : @Eq ((⟨Cert.KernelIdeal.S131072, .i32⟩ : BufTy).Contents (Elt F)) (Φ₁ (Proc.devRef .tc Cert.KernelIdeal.main_v3010)) (Φ₂ (Proc.devRef .tc Cert.ReferenceIdeal.main_v3029)) := step1 (α := ((⟨Cert.KernelIdeal.S_, .i32⟩ : BufTy).Contents (Elt F))) (β := ((⟨Cert.KernelIdeal.S131072, .i32⟩ : BufTy).Contents (Elt F))) (eq1 (at_ fa6 (i := 1) rfl) :) (eq1 (at_ fb1 (i := 60) rfl) :) e64
  have e66 : @Eq ((⟨Cert.KernelIdeal.S131072, .i32⟩ : BufTy).Contents (Elt F)) (Φ₁ (Proc.devRef .tc Cert.KernelIdeal.main_v3011)) (Φ₂ (Proc.devRef .tc Cert.ReferenceIdeal.main_v3030)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa6 (i := 2) rfl) :) (eq2 (at_ fb1 (i := 61) rfl) :) e63 e65
  have e67 : @Eq ((⟨Cert.KernelIdeal.S_, .i32⟩ : BufTy).Contents (Elt F)) (Φ₁ (Proc.devRef .tc Cert.KernelIdeal.main_c_914)) (Φ₂ (Proc.devRef .tc Cert.ReferenceIdeal.main_c_914)) := step0 (β := ((⟨Cert.KernelIdeal.S_, .i32⟩ : BufTy).Contents (Elt F))) (eq0 (at_ fa6 (i := 3) rfl) :) (eq0 (at_ fb1 (i := 62) rfl) :)
  have e68 : @Eq ((⟨Cert.KernelIdeal.S_, .i32⟩ : BufTy).Contents (Elt F)) (Φ₁ (Proc.devRef .tc Cert.KernelIdeal.main_c_915)) (Φ₂ (Proc.devRef .tc Cert.ReferenceIdeal.main_c_915)) := step0 (β := ((⟨Cert.KernelIdeal.S_, .i32⟩ : BufTy).Contents (Elt F))) (eq0 (at_ fa6 (i := 4) rfl) :) (eq0 (at_ fb1 (i := 63) rfl) :)
  have e69 : @Eq ((⟨Cert.KernelIdeal.S_, .i32⟩ : BufTy).Contents (Elt F)) (Φ₁ (Proc.devRef .tc Cert.KernelIdeal.main_call95_v0)) (Φ₂ (Proc.devRef .tc Cert.ReferenceIdeal.main_call95_v0)) := step1 (α := ((⟨Cert.KernelIdeal.S_, .i32⟩ : BufTy).Contents (Elt F))) (β := ((⟨Cert.KernelIdeal.S_, .i32⟩ : BufTy).Contents (Elt F))) (eqT1 (at_ fa7 (i := 0) rfl) :) (eqT1 (at_ fb1 (i := 64) rfl) :) e67
  have e70 : @Eq ((⟨Cert.KernelIdeal.S131072, .i32⟩ : BufTy).Contents (Elt F)) (Φ₁ (Proc.devRef .tc Cert.KernelIdeal.main_call95_v1)) (Φ₂ (Proc.devRef .tc Cert.ReferenceIdeal.main_call95_v1)) := step1 (α := ((⟨Cert.KernelIdeal.S_, .i32⟩ : BufTy).Contents (Elt F))) (β := ((⟨Cert.KernelIdeal.S131072, .i32⟩ : BufTy).Contents (Elt F))) (eqT1 (at_ fa7 (i := 1) rfl) :) (eqT1 (at_ fb1 (i := 65) rfl) :) e69
  have e71 : @Eq ((⟨Cert.KernelIdeal.S131072, .i32⟩ : BufTy).Contents (Elt F)) (Φ₁ (Proc.devRef .tc Cert.KernelIdeal.main_call95_v2)) (Φ₂ (Proc.devRef .tc Cert.ReferenceIdeal.main_call95_v2)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 2) rfl) :) (eqT2 (at_ fb1 (i := 66) rfl) :) e70 e66
  have e72 : @Eq ((⟨Cert.KernelIdeal.S_, .i32⟩ : BufTy).Contents (Elt F)) (Φ₁ (Proc.devRef .tc Cert.KernelIdeal.main_call95_v3)) (Φ₂ (Proc.devRef .tc Cert.ReferenceIdeal.main_call95_v3)) := step1 (α := ((⟨Cert.KernelIdeal.S_, .i32⟩ : BufTy).Contents (Elt F))) (β := ((⟨Cert.KernelIdeal.S_, .i32⟩ : BufTy).Contents (Elt F))) (eqT1 (at_ fa7 (i := 3) rfl) :) (eqT1 (at_ fb1 (i := 67) rfl) :) e68
  have e73 : @Eq ((⟨Cert.KernelIdeal.S131072, .i32⟩ : BufTy).Contents (Elt F)) (Φ₁ (Proc.devRef .tc Cert.KernelIdeal.main_call95_v4)) (Φ₂ (Proc.devRef .tc Cert.ReferenceIdeal.main_call95_v4)) := step1 (α := ((⟨Cert.KernelIdeal.S_, .i32⟩ : BufTy).Contents (Elt F))) (β := ((⟨Cert.KernelIdeal.S131072, .i32⟩ : BufTy).Contents (Elt F))) (eqT1 (at_ fa7 (i := 4) rfl) :) (eqT1 (at_ fb1 (i := 68) rfl) :) e72
  have e74 : @Eq ((⟨Cert.KernelIdeal.S131072, .i32⟩ : BufTy).Contents (Elt F)) (Φ₁ (Proc.devRef .tc Cert.KernelIdeal.main_v3012)) (Φ₂ (Proc.devRef .tc Cert.ReferenceIdeal.main_v3031)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eqT2 (at_ fa7 (i := 5) rfl) :) (eqT2 (at_ fb1 (i := 69) rfl) :) e73 e71
  have e75 : @Eq ((⟨Cert.KernelIdeal.S_, .i32⟩ : BufTy).Contents (Elt F)) (Φ₁ (Proc.devRef .tc Cert.KernelIdeal.main_c_916)) (Φ₂ (Proc.devRef .tc Cert.ReferenceIdeal.main_c_916)) := step0 (β := ((⟨Cert.KernelIdeal.S_, .i32⟩ : BufTy).Contents (Elt F))) (eq0 (at_ fa8 (i := 0) rfl) :) (eq0 (at_ fb1 (i := 70) rfl) :)
  have e76 : @Eq ((⟨Cert.KernelIdeal.S131072, .i32⟩ : BufTy).Contents (Elt F)) (Φ₁ (Proc.devRef .tc Cert.KernelIdeal.main_v3013)) (Φ₂ (Proc.devRef .tc Cert.ReferenceIdeal.main_v3032)) := step1 (α := ((⟨Cert.KernelIdeal.S_, .i32⟩ : BufTy).Contents (Elt F))) (β := ((⟨Cert.KernelIdeal.S131072, .i32⟩ : BufTy).Contents (Elt F))) (eq1 (at_ fa8 (i := 1) rfl) :) (eq1 (at_ fb1 (i := 71) rfl) :) e75
  have e77 : @Eq ((⟨Cert.KernelIdeal.S131072, .i1⟩ : BufTy).Contents (Elt F)) (Φ₁ (Proc.devRef .tc Cert.KernelIdeal.main_v3014)) (Φ₂ (Proc.devRef .tc Cert.ReferenceIdeal.main_v3033)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 2) rfl) :) (eq2 (at_ fb1 (i := 72) rfl) :) e63 e76
  have e78 : @Eq ((⟨Cert.KernelIdeal.S_, .i32⟩ : BufTy).Contents (Elt F)) (Φ₁ (Proc.devRef .tc Cert.KernelIdeal.main_c_917)) (Φ₂ (Proc.devRef .tc Cert.ReferenceIdeal.main_c_917)) := step0 (β := ((⟨Cert.KernelIdeal.S_, .i32⟩ : BufTy).Contents (Elt F))) (eq0 (at_ fa8 (i := 3) rfl) :) (eq0 (at_ fb1 (i := 73) rfl) :)
  have e79 : @Eq ((⟨Cert.KernelIdeal.S131072, .i32⟩ : BufTy).Contents (Elt F)) (Φ₁ (Proc.devRef .tc Cert.KernelIdeal.main_v3015)) (Φ₂ (Proc.devRef .tc Cert.ReferenceIdeal.main_v3034)) := step1 (α := ((⟨Cert.KernelIdeal.S_, .i32⟩ : BufTy).Contents (Elt F))) (β := ((⟨Cert.KernelIdeal.S131072, .i32⟩ : BufTy).Contents (Elt F))) (eq1 (at_ fa8 (i := 4) rfl) :) (eq1 (at_ fb1 (i := 74) rfl) :) e78
  have e80 : @Eq ((⟨Cert.KernelIdeal.S131072, .i32⟩ : BufTy).Contents (Elt F)) (Φ₁ (Proc.devRef .tc Cert.KernelIdeal.main_v3016)) (Φ₂ (Proc.devRef .tc Cert.ReferenceIdeal.main_v3035)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 5) rfl) :) (eq2 (at_ fb1 (i := 75) rfl) :) e63 e79
  have e81 : @Eq ((⟨Cert.KernelIdeal.S131072, .i32⟩ : BufTy).Contents (Elt F)) (Φ₁ (Proc.devRef .tc Cert.KernelIdeal.main_v3017)) (Φ₂ (Proc.devRef .tc Cert.ReferenceIdeal.main_v3036)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 6) rfl) :) (eq3 (at_ fb1 (i := 76) rfl) :) e77 e80 e63
  have e82 : @Eq ((⟨Cert.KernelIdeal.S_, .i32⟩ : BufTy).Contents (Elt F)) (Φ₁ (Proc.devRef .tc Cert.KernelIdeal.main_c_918)) (Φ₂ (Proc.devRef .tc Cert.ReferenceIdeal.main_c_918)) := step0 (β := ((⟨Cert.KernelIdeal.S_, .i32⟩ : BufTy).Contents (Elt F))) (eq0 (at_ fa8 (i := 7) rfl) :) (eq0 (at_ fb1 (i := 77) rfl) :)
  have e83 : @Eq ((⟨Cert.KernelIdeal.S131072, .i32⟩ : BufTy).Contents (Elt F)) (Φ₁ (Proc.devRef .tc Cert.KernelIdeal.main_v3018)) (Φ₂ (Proc.devRef .tc Cert.ReferenceIdeal.main_v3037)) := step1 (α := ((⟨Cert.KernelIdeal.S_, .i32⟩ : BufTy).Contents (Elt F))) (β := ((⟨Cert.KernelIdeal.S131072, .i32⟩ : BufTy).Contents (Elt F))) (eq1 (at_ fa8 (i := 8) rfl) :) (eq1 (at_ fb1 (i := 78) rfl) :) e82
  have e84 : @Eq ((⟨Cert.KernelIdeal.S131072, .i1⟩ : BufTy).Contents (Elt F)) (Φ₁ (Proc.devRef .tc Cert.KernelIdeal.main_v3019)) (Φ₂ (Proc.devRef .tc Cert.ReferenceIdeal.main_v3038)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 9) rfl) :) (eq2 (at_ fb1 (i := 79) rfl) :) e43 e83
  have e85 : @Eq ((⟨Cert.KernelIdeal.S_, .i32⟩ : BufTy).Contents (Elt F)) (Φ₁ (Proc.devRef .tc Cert.KernelIdeal.main_c_919)) (Φ₂ (Proc.devRef .tc Cert.ReferenceIdeal.main_c_919)) := step0 (β := ((⟨Cert.KernelIdeal.S_, .i32⟩ : BufTy).Contents (Elt F))) (eq0 (at_ fa8 (i := 10) rfl) :) (eq0 (at_ fb2 (i := 0) rfl) :)
  have e86 : @Eq ((⟨Cert.KernelIdeal.S131072, .i32⟩ : BufTy).Contents (Elt F)) (Φ₁ (Proc.devRef .tc Cert.KernelIdeal.main_v3020)) (Φ₂ (Proc.devRef .tc Cert.ReferenceIdeal.main_v3039)) := step1 (α := ((⟨Cert.KernelIdeal.S_, .i32⟩ : BufTy).Contents (Elt F))) (β := ((⟨Cert.KernelIdeal.S131072, .i32⟩ : BufTy).Contents (Elt F))) (eq1 (at_ fa8 (i := 11) rfl) :) (eq1 (at_ fb2 (i := 1) rfl) :) e85
  have e87 : @Eq ((⟨Cert.KernelIdeal.S131072, .i32⟩ : BufTy).Contents (Elt F)) (Φ₁ (Proc.devRef .tc Cert.KernelIdeal.main_v3021)) (Φ₂ (Proc.devRef .tc Cert.ReferenceIdeal.main_v3040)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 12) rfl) :) (eq2 (at_ fb2 (i := 2) rfl) :) e43 e86
  have e88 : @Eq ((⟨Cert.KernelIdeal.S131072, .i32⟩ : BufTy).Contents (Elt F)) (Φ₁ (Proc.devRef .tc Cert.KernelIdeal.main_v3022)) (Φ₂ (Proc.devRef .tc Cert.ReferenceIdeal.main_v3041)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 13) rfl) :) (eq3 (at_ fb2 (i := 3) rfl) :) e84 e87 e43
  have e89 : @Eq ((⟨Cert.KernelIdeal.S131072x1, .i32⟩ : BufTy).Contents (Elt F)) (Φ₁ (Proc.devRef .tc Cert.KernelIdeal.main_v3023)) (Φ₂ (Proc.devRef .tc Cert.ReferenceIdeal.main_v3042)) := step1 (α := ((⟨Cert.KernelIdeal.S131072, .i32⟩ : BufTy).Contents (Elt F))) (β := ((⟨Cert.KernelIdeal.S131072x1, .i32⟩ : BufTy).Contents (Elt F))) (eq1 (at_ fa8 (i := 14) rfl) :) (eq1 (at_ fb2 (i := 4) rfl) :) e81
  have e90 : @Eq ((⟨Cert.KernelIdeal.S131072x1, .i32⟩ : BufTy).Contents (Elt F)) (Φ₁ (Proc.devRef .tc Cert.KernelIdeal.main_v3024)) (Φ₂ (Proc.devRef .tc Cert.ReferenceIdeal.main_v3043)) := step1 (α := ((⟨Cert.KernelIdeal.S131072, .i32⟩ : BufTy).Contents (Elt F))) (β := ((⟨Cert.KernelIdeal.S131072x1, .i32⟩ : BufTy).Contents (Elt F))) (eq1 (at_ fa8 (i := 15) rfl) :) (eq1 (at_ fb2 (i := 5) rfl) :) e88
  have e91 : @Eq ((⟨Cert.KernelIdeal.S131072x2, .i32⟩ : BufTy).Contents (Elt F)) (Φ₁ (Proc.devRef .tc Cert.KernelIdeal.main_v3025)) (Φ₂ (Proc.devRef .tc Cert.ReferenceIdeal.main_v3044)) := by rw [eq2 (at_ fa8 (i := 16) rfl), eq2 (at_ fb2 (i := 6) rfl), e89, e90] <;> rfl
  have e92 : @Eq ((⟨Cert.KernelIdeal.S32x131072, .f32⟩ : BufTy).Contents (Elt F)) (Φ₁ (Proc.devRef .tc Cert.KernelIdeal.main_v3026)) (Φ₂ (Proc.devRef .tc Cert.ReferenceIdeal.main_v3045)) := by rw [eq2 (at_ fa8 (i := 17) rfl), eq2 (at_ fb2 (i := 7) rfl), x2, e91] <;> rfl
  have e93 : @Eq ((⟨Cert.KernelIdeal.S_, .i32⟩ : BufTy).Contents (Elt F)) (Φ₁ (Proc.devRef .tc Cert.KernelIdeal.main_c_920)) (Φ₂ (Proc.devRef .tc Cert.ReferenceIdeal.main_c_920)) := step0 (β := ((⟨Cert.KernelIdeal.S_, .i32⟩ : BufTy).Contents (Elt F))) (eq0 (at_ fa8 (i := 18) rfl) :) (eq0 (at_ fb2 (i := 8) rfl) :)
  have e94 : @Eq ((⟨Cert.KernelIdeal.S131072, .i32⟩ : BufTy).Contents (Elt F)) (Φ₁ (Proc.devRef .tc Cert.KernelIdeal.main_v3027)) (Φ₂ (Proc.devRef .tc Cert.ReferenceIdeal.main_v3046)) := step1 (α := ((⟨Cert.KernelIdeal.S_, .i32⟩ : BufTy).Contents (Elt F))) (β := ((⟨Cert.KernelIdeal.S131072, .i32⟩ : BufTy).Contents (Elt F))) (eq1 (at_ fa8 (i := 19) rfl) :) (eq1 (at_ fb2 (i := 9) rfl) :) e93
  have e95 : @Eq ((⟨Cert.KernelIdeal.S131072, .i1⟩ : BufTy).Contents (Elt F)) (Φ₁ (Proc.devRef .tc Cert.KernelIdeal.main_v3028)) (Φ₂ (Proc.devRef .tc Cert.ReferenceIdeal.main_v3047)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 20) rfl) :) (eq2 (at_ fb2 (i := 10) rfl) :) e63 e94
  have e96 : @Eq ((⟨Cert.KernelIdeal.S_, .i32⟩ : BufTy).Contents (Elt F)) (Φ₁ (Proc.devRef .tc Cert.KernelIdeal.main_c_921)) (Φ₂ (Proc.devRef .tc Cert.ReferenceIdeal.main_c_921)) := step0 (β := ((⟨Cert.KernelIdeal.S_, .i32⟩ : BufTy).Contents (Elt F))) (eq0 (at_ fa8 (i := 21) rfl) :) (eq0 (at_ fb2 (i := 11) rfl) :)
  have e97 : @Eq ((⟨Cert.KernelIdeal.S131072, .i32⟩ : BufTy).Contents (Elt F)) (Φ₁ (Proc.devRef .tc Cert.KernelIdeal.main_v3029)) (Φ₂ (Proc.devRef .tc Cert.ReferenceIdeal.main_v3048)) := step1 (α := ((⟨Cert.KernelIdeal.S_, .i32⟩ : BufTy).Contents (Elt F))) (β := ((⟨Cert.KernelIdeal.S131072, .i32⟩ : BufTy).Contents (Elt F))) (eq1 (at_ fa8 (i := 22) rfl) :) (eq1 (at_ fb2 (i := 12) rfl) :) e96
  have e98 : @Eq ((⟨Cert.KernelIdeal.S131072, .i32⟩ : BufTy).Contents (Elt F)) (Φ₁ (Proc.devRef .tc Cert.KernelIdeal.main_v3030)) (Φ₂ (Proc.devRef .tc Cert.ReferenceIdeal.main_v3049)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 23) rfl) :) (eq2 (at_ fb2 (i := 13) rfl) :) e63 e97
  have e99 : @Eq ((⟨Cert.KernelIdeal.S131072, .i32⟩ : BufTy).Contents (Elt F)) (Φ₁ (Proc.devRef .tc Cert.KernelIdeal.main_v3031)) (Φ₂ (Proc.devRef .tc Cert.ReferenceIdeal.main_v3050)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 24) rfl) :) (eq3 (at_ fb2 (i := 14) rfl) :) e95 e98 e63
  have e100 : @Eq ((⟨Cert.KernelIdeal.S_, .i32⟩ : BufTy).Contents (Elt F)) (Φ₁ (Proc.devRef .tc Cert.KernelIdeal.main_c_922)) (Φ₂ (Proc.devRef .tc Cert.ReferenceIdeal.main_c_922)) := step0 (β := ((⟨Cert.KernelIdeal.S_, .i32⟩ : BufTy).Contents (Elt F))) (eq0 (at_ fa8 (i := 25) rfl) :) (eq0 (at_ fb2 (i := 15) rfl) :)
  have e101 : @Eq ((⟨Cert.KernelIdeal.S131072, .i32⟩ : BufTy).Contents (Elt F)) (Φ₁ (Proc.devRef .tc Cert.KernelIdeal.main_v3032)) (Φ₂ (Proc.devRef .tc Cert.ReferenceIdeal.main_v3051)) := step1 (α := ((⟨Cert.KernelIdeal.S_, .i32⟩ : BufTy).Contents (Elt F))) (β := ((⟨Cert.KernelIdeal.S131072, .i32⟩ : BufTy).Contents (Elt F))) (eq1 (at_ fa8 (i := 26) rfl) :) (eq1 (at_ fb2 (i := 16) rfl) :) e100
  have e102 : @Eq ((⟨Cert.KernelIdeal.S131072, .i1⟩ : BufTy).Contents (Elt F)) (Φ₁ (Proc.devRef .tc Cert.KernelIdeal.main_v3033)) (Φ₂ (Proc.devRef .tc Cert.ReferenceIdeal.main_v3052)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 27) rfl) :) (eq2 (at_ fb2 (i := 17) rfl) :) e54 e101
  have e103 : @Eq ((⟨Cert.KernelIdeal.S_, .i32⟩ : BufTy).Contents (Elt F)) (Φ₁ (Proc.devRef .tc Cert.KernelIdeal.main_c_923)) (Φ₂ (Proc.devRef .tc Cert.ReferenceIdeal.main_c_923)) := step0 (β := ((⟨Cert.KernelIdeal.S_, .i32⟩ : BufTy).Contents (Elt F))) (eq0 (at_ fa8 (i := 28) rfl) :) (eq0 (at_ fb2 (i := 18) rfl) :)
  have e104 : @Eq ((⟨Cert.KernelIdeal.S131072, .i32⟩ : BufTy).Contents (Elt F)) (Φ₁ (Proc.devRef .tc Cert.KernelIdeal.main_v3034)) (Φ₂ (Proc.devRef .tc Cert.ReferenceIdeal.main_v3053)) := step1 (α := ((⟨Cert.KernelIdeal.S_, .i32⟩ : BufTy).Contents (Elt F))) (β := ((⟨Cert.KernelIdeal.S131072, .i32⟩ : BufTy).Contents (Elt F))) (eq1 (at_ fa8 (i := 29) rfl) :) (eq1 (at_ fb2 (i := 19) rfl) :) e103
  have e105 : @Eq ((⟨Cert.KernelIdeal.S131072, .i32⟩ : BufTy).Contents (Elt F)) (Φ₁ (Proc.devRef .tc Cert.KernelIdeal.main_v3035)) (Φ₂ (Proc.devRef .tc Cert.ReferenceIdeal.main_v3054)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 30) rfl) :) (eq2 (at_ fb2 (i := 20) rfl) :) e54 e104
  have e106 : @Eq ((⟨Cert.KernelIdeal.S131072, .i32⟩ : BufTy).Contents (Elt F)) (Φ₁ (Proc.devRef .tc Cert.KernelIdeal.main_v3036)) (Φ₂ (Proc.devRef .tc Cert.ReferenceIdeal.main_v3055)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 31) rfl) :) (eq3 (at_ fb2 (i := 21) rfl) :) e102 e105 e54
  have e107 : @Eq ((⟨Cert.KernelIdeal.S131072x1, .i32⟩ : BufTy).Contents (Elt F)) (Φ₁ (Proc.devRef .tc Cert.KernelIdeal.main_v3037)) (Φ₂ (Proc.devRef .tc Cert.ReferenceIdeal.main_v3056)) := step1 (α := ((⟨Cert.KernelIdeal.S131072, .i32⟩ : BufTy).Contents (Elt F))) (β := ((⟨Cert.KernelIdeal.S131072x1, .i32⟩ : BufTy).Contents (Elt F))) (eq1 (at_ fa8 (i := 32) rfl) :) (eq1 (at_ fb2 (i := 22) rfl) :) e99
  have e108 : @Eq ((⟨Cert.KernelIdeal.S131072x1, .i32⟩ : BufTy).Contents (Elt F)) (Φ₁ (Proc.devRef .tc Cert.KernelIdeal.main_v3038)) (Φ₂ (Proc.devRef .tc Cert.ReferenceIdeal.main_v3057)) := step1 (α := ((⟨Cert.KernelIdeal.S131072, .i32⟩ : BufTy).Contents (Elt F))) (β := ((⟨Cert.KernelIdeal.S131072x1, .i32⟩ : BufTy).Contents (Elt F))) (eq1 (at_ fa8 (i := 33) rfl) :) (eq1 (at_ fb2 (i := 23) rfl) :) e106
  have e109 : @Eq ((⟨Cert.KernelIdeal.S131072x2, .i32⟩ : BufTy).Contents (Elt F)) (Φ₁ (Proc.devRef .tc Cert.KernelIdeal.main_v3039)) (Φ₂ (Proc.devRef .tc Cert.ReferenceIdeal.main_v3058)) := by rw [eq2 (at_ fa8 (i := 34) rfl), eq2 (at_ fb2 (i := 24) rfl), e107, e108] <;> rfl
  have e110 : @Eq ((⟨Cert.KernelIdeal.S32x131072, .f32⟩ : BufTy).Contents (Elt F)) (Φ₁ (Proc.devRef .tc Cert.KernelIdeal.main_v3040)) (Φ₂ (Proc.devRef .tc Cert.ReferenceIdeal.main_v3059)) := by rw [eq2 (at_ fa8 (i := 35) rfl), eq2 (at_ fb2 (i := 25) rfl), x2, e109] <;> rfl
  have e111 : @Eq ((⟨Cert.KernelIdeal.S_, .i32⟩ : BufTy).Contents (Elt F)) (Φ₁ (Proc.devRef .tc Cert.KernelIdeal.main_c_924)) (Φ₂ (Proc.devRef .tc Cert.ReferenceIdeal.main_c_924)) := step0 (β := ((⟨Cert.KernelIdeal.S_, .i32⟩ : BufTy).Contents (Elt F))) (eq0 (at_ fa8 (i := 36) rfl) :) (eq0 (at_ fb2 (i := 26) rfl) :)
  have e112 : @Eq ((⟨Cert.KernelIdeal.S131072, .i32⟩ : BufTy).Contents (Elt F)) (Φ₁ (Proc.devRef .tc Cert.KernelIdeal.main_v3041)) (Φ₂ (Proc.devRef .tc Cert.ReferenceIdeal.main_v3060)) := step1 (α := ((⟨Cert.KernelIdeal.S_, .i32⟩ : BufTy).Contents (Elt F))) (β := ((⟨Cert.KernelIdeal.S131072, .i32⟩ : BufTy).Contents (Elt F))) (eq1 (at_ fa8 (i := 37) rfl) :) (eq1 (at_ fb2 (i := 27) rfl) :) e111
  have e113 : @Eq ((⟨Cert.KernelIdeal.S131072, .i1⟩ : BufTy).Contents (Elt F)) (Φ₁ (Proc.devRef .tc Cert.KernelIdeal.main_v3042)) (Φ₂ (Proc.devRef .tc Cert.ReferenceIdeal.main_v3061)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 38) rfl) :) (eq2 (at_ fb2 (i := 28) rfl) :) e74 e112
  have e114 : @Eq ((⟨Cert.KernelIdeal.S_, .i32⟩ : BufTy).Contents (Elt F)) (Φ₁ (Proc.devRef .tc Cert.KernelIdeal.main_c_925)) (Φ₂ (Proc.devRef .tc Cert.ReferenceIdeal.main_c_925)) := step0 (β := ((⟨Cert.KernelIdeal.S_, .i32⟩ : BufTy).Contents (Elt F))) (eq0 (at_ fa8 (i := 39) rfl) :) (eq0 (at_ fb2 (i := 29) rfl) :)
  have e115 : @Eq ((⟨Cert.KernelIdeal.S131072, .i32⟩ : BufTy).Contents (Elt F)) (Φ₁ (Proc.devRef .tc Cert.KernelIdeal.main_v3043)) (Φ₂ (Proc.devRef .tc Cert.ReferenceIdeal.main_v3062)) := step1 (α := ((⟨Cert.KernelIdeal.S_, .i32⟩ : BufTy).Contents (Elt F))) (β := ((⟨Cert.KernelIdeal.S131072, .i32⟩ : BufTy).Contents (Elt F))) (eq1 (at_ fa8 (i := 40) rfl) :) (eq1 (at_ fb2 (i := 30) rfl) :) e114
  have e116 : @Eq ((⟨Cert.KernelIdeal.S131072, .i32⟩ : BufTy).Contents (Elt F)) (Φ₁ (Proc.devRef .tc Cert.KernelIdeal.main_v3044)) (Φ₂ (Proc.devRef .tc Cert.ReferenceIdeal.main_v3063)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 41) rfl) :) (eq2 (at_ fb2 (i := 31) rfl) :) e74 e115
  have e117 : @Eq ((⟨Cert.KernelIdeal.S131072, .i32⟩ : BufTy).Contents (Elt F)) (Φ₁ (Proc.devRef .tc Cert.KernelIdeal.main_v3045)) (Φ₂ (Proc.devRef .tc Cert.ReferenceIdeal.main_v3064)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 42) rfl) :) (eq3 (at_ fb2 (i := 32) rfl) :) e113 e116 e74
  have e118 : @Eq ((⟨Cert.KernelIdeal.S_, .i32⟩ : BufTy).Contents (Elt F)) (Φ₁ (Proc.devRef .tc Cert.KernelIdeal.main_c_926)) (Φ₂ (Proc.devRef .tc Cert.ReferenceIdeal.main_c_926)) := step0 (β := ((⟨Cert.KernelIdeal.S_, .i32⟩ : BufTy).Contents (Elt F))) (eq0 (at_ fa8 (i := 43) rfl) :) (eq0 (at_ fb2 (i := 33) rfl) :)
  have e119 : @Eq ((⟨Cert.KernelIdeal.S131072, .i32⟩ : BufTy).Contents (Elt F)) (Φ₁ (Proc.devRef .tc Cert.KernelIdeal.main_v3046)) (Φ₂ (Proc.devRef .tc Cert.ReferenceIdeal.main_v3065)) := step1 (α := ((⟨Cert.KernelIdeal.S_, .i32⟩ : BufTy).Contents (Elt F))) (β := ((⟨Cert.KernelIdeal.S131072, .i32⟩ : BufTy).Contents (Elt F))) (eq1 (at_ fa8 (i := 44) rfl) :) (eq1 (at_ fb2 (i := 34) rfl) :) e118
  have e120 : @Eq ((⟨Cert.KernelIdeal.S131072, .i1⟩ : BufTy).Contents (Elt F)) (Φ₁ (Proc.devRef .tc Cert.KernelIdeal.main_v3047)) (Φ₂ (Proc.devRef .tc Cert.ReferenceIdeal.main_v3066)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 45) rfl) :) (eq2 (at_ fb2 (i := 35) rfl) :) e43 e119
  have e121 : @Eq ((⟨Cert.KernelIdeal.S_, .i32⟩ : BufTy).Contents (Elt F)) (Φ₁ (Proc.devRef .tc Cert.KernelIdeal.main_c_927)) (Φ₂ (Proc.devRef .tc Cert.ReferenceIdeal.main_c_927)) := step0 (β := ((⟨Cert.KernelIdeal.S_, .i32⟩ : BufTy).Contents (Elt F))) (eq0 (at_ fa8 (i := 46) rfl) :) (eq0 (at_ fb2 (i := 36) rfl) :)
  have e122 : @Eq ((⟨Cert.KernelIdeal.S131072, .i32⟩ : BufTy).Contents (Elt F)) (Φ₁ (Proc.devRef .tc Cert.KernelIdeal.main_v3048)) (Φ₂ (Proc.devRef .tc Cert.ReferenceIdeal.main_v3067)) := step1 (α := ((⟨Cert.KernelIdeal.S_, .i32⟩ : BufTy).Contents (Elt F))) (β := ((⟨Cert.KernelIdeal.S131072, .i32⟩ : BufTy).Contents (Elt F))) (eq1 (at_ fa8 (i := 47) rfl) :) (eq1 (at_ fb2 (i := 37) rfl) :) e121
  have e123 : @Eq ((⟨Cert.KernelIdeal.S131072, .i32⟩ : BufTy).Contents (Elt F)) (Φ₁ (Proc.devRef .tc Cert.KernelIdeal.main_v3049)) (Φ₂ (Proc.devRef .tc Cert.ReferenceIdeal.main_v3068)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 48) rfl) :) (eq2 (at_ fb2 (i := 38) rfl) :) e43 e122
  have e124 : @Eq ((⟨Cert.KernelIdeal.S131072, .i32⟩ : BufTy).Contents (Elt F)) (Φ₁ (Proc.devRef .tc Cert.KernelIdeal.main_v3050)) (Φ₂ (Proc.devRef .tc Cert.ReferenceIdeal.main_v3069)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 49) rfl) :) (eq3 (at_ fb2 (i := 39) rfl) :) e120 e123 e43
  have e125 : @Eq ((⟨Cert.KernelIdeal.S131072x1, .i32⟩ : BufTy).Contents (Elt F)) (Φ₁ (Proc.devRef .tc Cert.KernelIdeal.main_v3051)) (Φ₂ (Proc.devRef .tc Cert.ReferenceIdeal.main_v3070)) := step1 (α := ((⟨Cert.KernelIdeal.S131072, .i32⟩ : BufTy).Contents (Elt F))) (β := ((⟨Cert.KernelIdeal.S131072x1, .i32⟩ : BufTy).Contents (Elt F))) (eq1 (at_ fa8 (i := 50) rfl) :) (eq1 (at_ fb2 (i := 40) rfl) :) e117
  have e126 : @Eq ((⟨Cert.KernelIdeal.S131072x1, .i32⟩ : BufTy).Contents (Elt F)) (Φ₁ (Proc.devRef .tc Cert.KernelIdeal.main_v3052)) (Φ₂ (Proc.devRef .tc Cert.ReferenceIdeal.main_v3071)) := step1 (α := ((⟨Cert.KernelIdeal.S131072, .i32⟩ : BufTy).Contents (Elt F))) (β := ((⟨Cert.KernelIdeal.S131072x1, .i32⟩ : BufTy).Contents (Elt F))) (eq1 (at_ fa8 (i := 51) rfl) :) (eq1 (at_ fb2 (i := 41) rfl) :) e124
  have e127 : @Eq ((⟨Cert.KernelIdeal.S131072x2, .i32⟩ : BufTy).Contents (Elt F)) (Φ₁ (Proc.devRef .tc Cert.KernelIdeal.main_v3053)) (Φ₂ (Proc.devRef .tc Cert.ReferenceIdeal.main_v3072)) := by rw [eq2 (at_ fa8 (i := 52) rfl), eq2 (at_ fb2 (i := 42) rfl), e125, e126] <;> rfl
  have e128 : @Eq ((⟨Cert.KernelIdeal.S32x131072, .f32⟩ : BufTy).Contents (Elt F)) (Φ₁ (Proc.devRef .tc Cert.KernelIdeal.main_v3054)) (Φ₂ (Proc.devRef .tc Cert.ReferenceIdeal.main_v3073)) := by rw [eq2 (at_ fa8 (i := 53) rfl), eq2 (at_ fb2 (i := 43) rfl), x2, e127] <;> rfl
  have e129 : @Eq ((⟨Cert.KernelIdeal.S_, .i32⟩ : BufTy).Contents (Elt F)) (Φ₁ (Proc.devRef .tc Cert.KernelIdeal.main_c_928)) (Φ₂ (Proc.devRef .tc Cert.ReferenceIdeal.main_c_928)) := step0 (β := ((⟨Cert.KernelIdeal.S_, .i32⟩ : BufTy).Contents (Elt F))) (eq0 (at_ fa8 (i := 54) rfl) :) (eq0 (at_ fb2 (i := 44) rfl) :)
  have e130 : @Eq ((⟨Cert.KernelIdeal.S131072, .i32⟩ : BufTy).Contents (Elt F)) (Φ₁ (Proc.devRef .tc Cert.KernelIdeal.main_v3055)) (Φ₂ (Proc.devRef .tc Cert.ReferenceIdeal.main_v3074)) := step1 (α := ((⟨Cert.KernelIdeal.S_, .i32⟩ : BufTy).Contents (Elt F))) (β := ((⟨Cert.KernelIdeal.S131072, .i32⟩ : BufTy).Contents (Elt F))) (eq1 (at_ fa8 (i := 55) rfl) :) (eq1 (at_ fb2 (i := 45) rfl) :) e129
  have e131 : @Eq ((⟨Cert.KernelIdeal.S131072, .i1⟩ : BufTy).Contents (Elt F)) (Φ₁ (Proc.devRef .tc Cert.KernelIdeal.main_v3056)) (Φ₂ (Proc.devRef .tc Cert.ReferenceIdeal.main_v3075)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 56) rfl) :) (eq2 (at_ fb2 (i := 46) rfl) :) e74 e130
  have e132 : @Eq ((⟨Cert.KernelIdeal.S_, .i32⟩ : BufTy).Contents (Elt F)) (Φ₁ (Proc.devRef .tc Cert.KernelIdeal.main_c_929)) (Φ₂ (Proc.devRef .tc Cert.ReferenceIdeal.main_c_929)) := step0 (β := ((⟨Cert.KernelIdeal.S_, .i32⟩ : BufTy).Contents (Elt F))) (eq0 (at_ fa8 (i := 57) rfl) :) (eq0 (at_ fb2 (i := 47) rfl) :)
  have e133 : @Eq ((⟨Cert.KernelIdeal.S131072, .i32⟩ : BufTy).Contents (Elt F)) (Φ₁ (Proc.devRef .tc Cert.KernelIdeal.main_v3057)) (Φ₂ (Proc.devRef .tc Cert.ReferenceIdeal.main_v3076)) := step1 (α := ((⟨Cert.KernelIdeal.S_, .i32⟩ : BufTy).Contents (Elt F))) (β := ((⟨Cert.KernelIdeal.S131072, .i32⟩ : BufTy).Contents (Elt F))) (eq1 (at_ fa8 (i := 58) rfl) :) (eq1 (at_ fb2 (i := 48) rfl) :) e132
  have e134 : @Eq ((⟨Cert.KernelIdeal.S131072, .i32⟩ : BufTy).Contents (Elt F)) (Φ₁ (Proc.devRef .tc Cert.KernelIdeal.main_v3058)) (Φ₂ (Proc.devRef .tc Cert.ReferenceIdeal.main_v3077)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 59) rfl) :) (eq2 (at_ fb2 (i := 49) rfl) :) e74 e133
  have e135 : @Eq ((⟨Cert.KernelIdeal.S131072, .i32⟩ : BufTy).Contents (Elt F)) (Φ₁ (Proc.devRef .tc Cert.KernelIdeal.main_v3059)) (Φ₂ (Proc.devRef .tc Cert.ReferenceIdeal.main_v3078)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 60) rfl) :) (eq3 (at_ fb2 (i := 50) rfl) :) e131 e134 e74
  have e136 : @Eq ((⟨Cert.KernelIdeal.S_, .i32⟩ : BufTy).Contents (Elt F)) (Φ₁ (Proc.devRef .tc Cert.KernelIdeal.main_c_930)) (Φ₂ (Proc.devRef .tc Cert.ReferenceIdeal.main_c_930)) := step0 (β := ((⟨Cert.KernelIdeal.S_, .i32⟩ : BufTy).Contents (Elt F))) (eq0 (at_ fa8 (i := 61) rfl) :) (eq0 (at_ fb2 (i := 51) rfl) :)
  have e137 : @Eq ((⟨Cert.KernelIdeal.S131072, .i32⟩ : BufTy).Contents (Elt F)) (Φ₁ (Proc.devRef .tc Cert.KernelIdeal.main_v3060)) (Φ₂ (Proc.devRef .tc Cert.ReferenceIdeal.main_v3079)) := step1 (α := ((⟨Cert.KernelIdeal.S_, .i32⟩ : BufTy).Contents (Elt F))) (β := ((⟨Cert.KernelIdeal.S131072, .i32⟩ : BufTy).Contents (Elt F))) (eq1 (at_ fa8 (i := 62) rfl) :) (eq1 (at_ fb2 (i := 52) rfl) :) e136
  have e138 : @Eq ((⟨Cert.KernelIdeal.S131072, .i1⟩ : BufTy).Contents (Elt F)) (Φ₁ (Proc.devRef .tc Cert.KernelIdeal.main_v3061)) (Φ₂ (Proc.devRef .tc Cert.ReferenceIdeal.main_v3080)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i1⟩ : BufTy).Contents (Elt F))) (eq2 (at_ fa8 (i := 63) rfl) :) (eq2 (at_ fb2 (i := 53) rfl) :) e54 e137
  have e139 : @Eq ((⟨Cert.KernelIdeal.S_, .i32⟩ : BufTy).Contents (Elt F)) (Φ₁ (Proc.devRef .tc Cert.KernelIdeal.main_c_931)) (Φ₂ (Proc.devRef .tc Cert.ReferenceIdeal.main_c_931)) := step0 (β := ((⟨Cert.KernelIdeal.S_, .i32⟩ : BufTy).Contents (Elt F))) (eq0 (at_ fa8 (i := 64) rfl) :) (eq0 (at_ fb2 (i := 54) rfl) :)
  have e140 : @Eq ((⟨Cert.KernelIdeal.S131072, .i32⟩ : BufTy).Contents (Elt F)) (Φ₁ (Proc.devRef .tc Cert.KernelIdeal.main_v3062)) (Φ₂ (Proc.devRef .tc Cert.ReferenceIdeal.main_v3081)) := step1 (α := ((⟨Cert.KernelIdeal.S_, .i32⟩ : BufTy).Contents (Elt F))) (β := ((⟨Cert.KernelIdeal.S131072, .i32⟩ : BufTy).Contents (Elt F))) (eq1 (at_ fa8 (i := 65) rfl) :) (eq1 (at_ fb2 (i := 55) rfl) :) e139
  have e141 : @Eq ((⟨Cert.KernelIdeal.S131072, .i32⟩ : BufTy).Contents (Elt F)) (Φ₁ (Proc.devRef .tc Cert.KernelIdeal.main_v3063)) (Φ₂ (Proc.devRef .tc Cert.ReferenceIdeal.main_v3082)) := step2 (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq2 (at_ fa8 (i := 66) rfl) :) (eq2 (at_ fb2 (i := 56) rfl) :) e54 e140
  have e142 : @Eq ((⟨Cert.KernelIdeal.S131072, .i32⟩ : BufTy).Contents (Elt F)) (Φ₁ (Proc.devRef .tc Cert.KernelIdeal.main_v3064)) (Φ₂ (Proc.devRef .tc Cert.ReferenceIdeal.main_v3083)) := step3 (α₀ := ((⟨Cert.KernelIdeal.S131072, .i1⟩ : BufTy).Contents (Elt F))) (α₁ := ((⟨Cert.KernelIdeal.S131072, .i32⟩ : BufTy).Contents (Elt F))) (α₂ := ((⟨Cert.KernelIdeal.S131072, .i32⟩ : BufTy).Contents (Elt F))) (β := ((⟨Cert.KernelIdeal.S131072, .i32⟩ : BufTy).Contents (Elt F))) (eq3 (at_ fa8 (i := 67) rfl) :) (eq3 (at_ fb2 (i := 57) rfl) :) e138 e141 e54
  have e143 : @Eq ((⟨Cert.KernelIdeal.S131072x1, .i32⟩ : BufTy).Contents (Elt F)) (Φ₁ (Proc.devRef .tc Cert.KernelIdeal.main_v3065)) (Φ₂ (Proc.devRef .tc Cert.ReferenceIdeal.main_v3084)) := step1 (α := ((⟨Cert.KernelIdeal.S131072, .i32⟩ : BufTy).Contents (Elt F))) (β := ((⟨Cert.KernelIdeal.S131072x1, .i32⟩ : BufTy).Contents (Elt F))) (eq1 (at_ fa8 (i := 68) rfl) :) (eq1 (at_ fb2 (i := 58) rfl) :) e135
  have e144 : @Eq ((⟨Cert.KernelIdeal.S131072x1, .i32⟩ : BufTy).Contents (Elt F)) (Φ₁ (Proc.devRef .tc Cert.KernelIdeal.main_v3066)) (Φ₂ (Proc.devRef .tc Cert.ReferenceIdeal.main_v3085)) := step1 (α := ((⟨Cert.KernelIdeal.S131072, .i32⟩ : BufTy).Contents (Elt F))) (β := ((⟨Cert.KernelIdeal.S131072x1, .i32⟩ : BufTy).Contents (Elt F))) (eq1 (at_ fa8 (i := 69) rfl) :) (eq1 (at_ fb2 (i := 59) rfl) :) e142
  have e145 : @Eq ((⟨Cert.KernelIdeal.S131072x2, .i32⟩ : BufTy).Contents (Elt F)) (Φ₁ (Proc.devRef .tc Cert.KernelIdeal.main_v3067)) (Φ₂ (Proc.devRef .tc Cert.ReferenceIdeal.main_v3086)) := by rw [eq2 (at_ fa8 (i := 70) rfl), eq2 (at_ fb3 (i := 0) rfl), e143, e144] <;> rfl
  have e146 : @Eq ((⟨Cert.KernelIdeal.S32x131072, .f32⟩ : BufTy).Contents (Elt F)) (Φ₁ (Proc.devRef .tc Cert.KernelIdeal.main_v3068)) (Φ₂ (Proc.devRef .tc Cert.ReferenceIdeal.main_v3087)) := by rw [eq2 (at_ fa8 (i := 71) rfl), eq2 (at_ fb3 (i := 1) rfl), x2, e145] <;> rfl
  have e147 : @Eq ((⟨Cert.KernelIdeal.S_, .f32⟩ : BufTy).Contents (Elt F)) (Φ₁ (Proc.devRef .tc Cert.KernelIdeal.main_cst_932)) (Φ₂ (Proc.devRef .tc Cert.ReferenceIdeal.main_cst_932)) := step0 (β := ((⟨Cert.KernelIdeal.S_, .f32⟩ : BufTy).Contents (Elt F))) (eq0 (at_ fa8 (i := 72) rfl) :) (eq0 (at_ fb3 (i := 2) rfl) :)
  have e148 : @Eq ((⟨Cert.KernelIdeal.S131072, .f32⟩ : BufTy).Contents (Elt F)) (Φ₁ (Proc.devRef .tc Cert.KernelIdeal.main_v3069)) (Φ₂ (Proc.devRef .tc Cert.ReferenceIdeal.main_v3088)) := step1 (α := ((⟨Cert.KernelIdeal.S_, .f32⟩ : BufTy).Contents (Elt F))) (β := ((⟨Cert.KernelIdeal.S131072, .f32⟩ : BufTy).Contents (Elt F))) (eq1 (at_ fa8 (i := 73) rfl) :) (eq1 (at_ fb3 (i := 3) rfl) :) e147
  have e149 : @Eq ((⟨Cert.KernelIdeal.S131072, .f32⟩ : BufTy).Contents (Elt F)) (Φ₁ (Proc.devRef .tc Cert.KernelIdeal.main_v3070)) (Φ₂ (Proc.devRef .tc Cert.ReferenceIdeal.main_v3089)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 74) rfl) :) (eq2 (at_ fb3 (i := 4) rfl) :) e148 e33
  have e150 : @Eq ((⟨Cert.KernelIdeal.S1x131072, .f32⟩ : BufTy).Contents (Elt F)) (Φ₁ (Proc.devRef .tc Cert.KernelIdeal.main_v3071)) (Φ₂ (Proc.devRef .tc Cert.ReferenceIdeal.main_v3090)) := step1 (α := ((⟨Cert.KernelIdeal.S131072, .f32⟩ : BufTy).Contents (Elt F))) (β := ((⟨Cert.KernelIdeal.S1x131072, .f32⟩ : BufTy).Contents (Elt F))) (eq1 (at_ fa8 (i := 75) rfl) :) (eq1 (at_ fb3 (i := 5) rfl) :) e149
  have e151 : @Eq ((⟨Cert.KernelIdeal.S32x131072, .f32⟩ : BufTy).Contents (Elt F)) (Φ₁ (Proc.devRef .tc Cert.KernelIdeal.main_v3072)) (Φ₂ (Proc.devRef .tc Cert.ReferenceIdeal.main_v3091)) := step1 (α := ((⟨Cert.KernelIdeal.S1x131072, .f32⟩ : BufTy).Contents (Elt F))) (β := ((⟨Cert.KernelIdeal.S32x131072, .f32⟩ : BufTy).Contents (Elt F))) (eq1 (at_ fa8 (i := 76) rfl) :) (eq1 (at_ fb3 (i := 6) rfl) :) e150
  have e152 : @Eq ((⟨Cert.KernelIdeal.S32x131072, .f32⟩ : BufTy).Contents (Elt F)) (Φ₁ (Proc.devRef .tc Cert.KernelIdeal.main_v3073)) (Φ₂ (Proc.devRef .tc Cert.ReferenceIdeal.main_v3092)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 77) rfl) :) (eq2 (at_ fb3 (i := 7) rfl) :) e92 e151
  have e153 : @Eq ((⟨Cert.KernelIdeal.S_, .f32⟩ : BufTy).Contents (Elt F)) (Φ₁ (Proc.devRef .tc Cert.KernelIdeal.main_cst_933)) (Φ₂ (Proc.devRef .tc Cert.ReferenceIdeal.main_cst_933)) := step0 (β := ((⟨Cert.KernelIdeal.S_, .f32⟩ : BufTy).Contents (Elt F))) (eq0 (at_ fa8 (i := 78) rfl) :) (eq0 (at_ fb3 (i := 8) rfl) :)
  have e154 : @Eq ((⟨Cert.KernelIdeal.S131072, .f32⟩ : BufTy).Contents (Elt F)) (Φ₁ (Proc.devRef .tc Cert.KernelIdeal.main_v3074)) (Φ₂ (Proc.devRef .tc Cert.ReferenceIdeal.main_v3093)) := step1 (α := ((⟨Cert.KernelIdeal.S_, .f32⟩ : BufTy).Contents (Elt F))) (β := ((⟨Cert.KernelIdeal.S131072, .f32⟩ : BufTy).Contents (Elt F))) (eq1 (at_ fa8 (i := 79) rfl) :) (eq1 (at_ fb3 (i := 9) rfl) :) e153
  have e155 : @Eq ((⟨Cert.KernelIdeal.S131072, .f32⟩ : BufTy).Contents (Elt F)) (Φ₁ (Proc.devRef .tc Cert.KernelIdeal.main_v3075)) (Φ₂ (Proc.devRef .tc Cert.ReferenceIdeal.main_v3094)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 80) rfl) :) (eq2 (at_ fb3 (i := 10) rfl) :) e154 e34
  have e156 : @Eq ((⟨Cert.KernelIdeal.S1x131072, .f32⟩ : BufTy).Contents (Elt F)) (Φ₁ (Proc.devRef .tc Cert.KernelIdeal.main_v3076)) (Φ₂ (Proc.devRef .tc Cert.ReferenceIdeal.main_v3095)) := step1 (α := ((⟨Cert.KernelIdeal.S131072, .f32⟩ : BufTy).Contents (Elt F))) (β := ((⟨Cert.KernelIdeal.S1x131072, .f32⟩ : BufTy).Contents (Elt F))) (eq1 (at_ fa8 (i := 81) rfl) :) (eq1 (at_ fb3 (i := 11) rfl) :) e155
  have e157 : @Eq ((⟨Cert.KernelIdeal.S32x131072, .f32⟩ : BufTy).Contents (Elt F)) (Φ₁ (Proc.devRef .tc Cert.KernelIdeal.main_v3077)) (Φ₂ (Proc.devRef .tc Cert.ReferenceIdeal.main_v3096)) := step1 (α := ((⟨Cert.KernelIdeal.S1x131072, .f32⟩ : BufTy).Contents (Elt F))) (β := ((⟨Cert.KernelIdeal.S32x131072, .f32⟩ : BufTy).Contents (Elt F))) (eq1 (at_ fa8 (i := 82) rfl) :) (eq1 (at_ fb3 (i := 12) rfl) :) e156
  have e158 : @Eq ((⟨Cert.KernelIdeal.S32x131072, .f32⟩ : BufTy).Contents (Elt F)) (Φ₁ (Proc.devRef .tc Cert.KernelIdeal.main_v3078)) (Φ₂ (Proc.devRef .tc Cert.ReferenceIdeal.main_v3097)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 83) rfl) :) (eq2 (at_ fb3 (i := 13) rfl) :) e152 e157
  have e159 : @Eq ((⟨Cert.KernelIdeal.S1x131072, .f32⟩ : BufTy).Contents (Elt F)) (Φ₁ (Proc.devRef .tc Cert.KernelIdeal.main_v3079)) (Φ₂ (Proc.devRef .tc Cert.ReferenceIdeal.main_v3098)) := step1 (α := ((⟨Cert.KernelIdeal.S131072, .f32⟩ : BufTy).Contents (Elt F))) (β := ((⟨Cert.KernelIdeal.S1x131072, .f32⟩ : BufTy).Contents (Elt F))) (eq1 (at_ fa8 (i := 84) rfl) :) (eq1 (at_ fb3 (i := 14) rfl) :) e33
  have e160 : @Eq ((⟨Cert.KernelIdeal.S32x131072, .f32⟩ : BufTy).Contents (Elt F)) (Φ₁ (Proc.devRef .tc Cert.KernelIdeal.main_v3080)) (Φ₂ (Proc.devRef .tc Cert.ReferenceIdeal.main_v3099)) := step1 (α := ((⟨Cert.KernelIdeal.S1x131072, .f32⟩ : BufTy).Contents (Elt F))) (β := ((⟨Cert.KernelIdeal.S32x131072, .f32⟩ : BufTy).Contents (Elt F))) (eq1 (at_ fa8 (i := 85) rfl) :) (eq1 (at_ fb3 (i := 15) rfl) :) e159
  have e161 : @Eq ((⟨Cert.KernelIdeal.S32x131072, .f32⟩ : BufTy).Contents (Elt F)) (Φ₁ (Proc.devRef .tc Cert.KernelIdeal.main_v3081)) (Φ₂ (Proc.devRef .tc Cert.ReferenceIdeal.main_v3100)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 86) rfl) :) (eq2 (at_ fb3 (i := 16) rfl) :) e110 e160
  have e162 : @Eq ((⟨Cert.KernelIdeal.S_, .f32⟩ : BufTy).Contents (Elt F)) (Φ₁ (Proc.devRef .tc Cert.KernelIdeal.main_cst_934)) (Φ₂ (Proc.devRef .tc Cert.ReferenceIdeal.main_cst_934)) := step0 (β := ((⟨Cert.KernelIdeal.S_, .f32⟩ : BufTy).Contents (Elt F))) (eq0 (at_ fa8 (i := 87) rfl) :) (eq0 (at_ fb3 (i := 17) rfl) :)
  have e163 : @Eq ((⟨Cert.KernelIdeal.S131072, .f32⟩ : BufTy).Contents (Elt F)) (Φ₁ (Proc.devRef .tc Cert.KernelIdeal.main_v3082)) (Φ₂ (Proc.devRef .tc Cert.ReferenceIdeal.main_v3101)) := step1 (α := ((⟨Cert.KernelIdeal.S_, .f32⟩ : BufTy).Contents (Elt F))) (β := ((⟨Cert.KernelIdeal.S131072, .f32⟩ : BufTy).Contents (Elt F))) (eq1 (at_ fa8 (i := 88) rfl) :) (eq1 (at_ fb3 (i := 18) rfl) :) e162
  have e164 : @Eq ((⟨Cert.KernelIdeal.S131072, .f32⟩ : BufTy).Contents (Elt F)) (Φ₁ (Proc.devRef .tc Cert.KernelIdeal.main_v3083)) (Φ₂ (Proc.devRef .tc Cert.ReferenceIdeal.main_v3102)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 89) rfl) :) (eq2 (at_ fb3 (i := 19) rfl) :) e163 e34
  have e165 : @Eq ((⟨Cert.KernelIdeal.S1x131072, .f32⟩ : BufTy).Contents (Elt F)) (Φ₁ (Proc.devRef .tc Cert.KernelIdeal.main_v3084)) (Φ₂ (Proc.devRef .tc Cert.ReferenceIdeal.main_v3103)) := step1 (α := ((⟨Cert.KernelIdeal.S131072, .f32⟩ : BufTy).Contents (Elt F))) (β := ((⟨Cert.KernelIdeal.S1x131072, .f32⟩ : BufTy).Contents (Elt F))) (eq1 (at_ fa8 (i := 90) rfl) :) (eq1 (at_ fb3 (i := 20) rfl) :) e164
  have e166 : @Eq ((⟨Cert.KernelIdeal.S32x131072, .f32⟩ : BufTy).Contents (Elt F)) (Φ₁ (Proc.devRef .tc Cert.KernelIdeal.main_v3085)) (Φ₂ (Proc.devRef .tc Cert.ReferenceIdeal.main_v3104)) := step1 (α := ((⟨Cert.KernelIdeal.S1x131072, .f32⟩ : BufTy).Contents (Elt F))) (β := ((⟨Cert.KernelIdeal.S32x131072, .f32⟩ : BufTy).Contents (Elt F))) (eq1 (at_ fa8 (i := 91) rfl) :) (eq1 (at_ fb3 (i := 21) rfl) :) e165
  have e167 : @Eq ((⟨Cert.KernelIdeal.S32x131072, .f32⟩ : BufTy).Contents (Elt F)) (Φ₁ (Proc.devRef .tc Cert.KernelIdeal.main_v3086)) (Φ₂ (Proc.devRef .tc Cert.ReferenceIdeal.main_v3105)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 92) rfl) :) (eq2 (at_ fb3 (i := 22) rfl) :) e161 e166
  have e168 : @Eq ((⟨Cert.KernelIdeal.S32x131072, .f32⟩ : BufTy).Contents (Elt F)) (Φ₁ (Proc.devRef .tc Cert.KernelIdeal.main_v3087)) (Φ₂ (Proc.devRef .tc Cert.ReferenceIdeal.main_v3106)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 93) rfl) :) (eq2 (at_ fb3 (i := 23) rfl) :) e158 e167
  have e169 : @Eq ((⟨Cert.KernelIdeal.S_, .f32⟩ : BufTy).Contents (Elt F)) (Φ₁ (Proc.devRef .tc Cert.KernelIdeal.main_cst_935)) (Φ₂ (Proc.devRef .tc Cert.ReferenceIdeal.main_cst_935)) := step0 (β := ((⟨Cert.KernelIdeal.S_, .f32⟩ : BufTy).Contents (Elt F))) (eq0 (at_ fa8 (i := 94) rfl) :) (eq0 (at_ fb3 (i := 24) rfl) :)
  have e170 : @Eq ((⟨Cert.KernelIdeal.S131072, .f32⟩ : BufTy).Contents (Elt F)) (Φ₁ (Proc.devRef .tc Cert.KernelIdeal.main_v3088)) (Φ₂ (Proc.devRef .tc Cert.ReferenceIdeal.main_v3107)) := step1 (α := ((⟨Cert.KernelIdeal.S_, .f32⟩ : BufTy).Contents (Elt F))) (β := ((⟨Cert.KernelIdeal.S131072, .f32⟩ : BufTy).Contents (Elt F))) (eq1 (at_ fa8 (i := 95) rfl) :) (eq1 (at_ fb3 (i := 25) rfl) :) e169
  have e171 : @Eq ((⟨Cert.KernelIdeal.S131072, .f32⟩ : BufTy).Contents (Elt F)) (Φ₁ (Proc.devRef .tc Cert.KernelIdeal.main_v3089)) (Φ₂ (Proc.devRef .tc Cert.ReferenceIdeal.main_v3108)) := step2 (α₁ := ((⟨Cert.KernelIdeal.S131072, .f32⟩ : BufTy).Contents (Elt F))) (α₂ := ((⟨Cert.KernelIdeal.S131072, .f32⟩ : BufTy).Contents (Elt F))) (β := ((⟨Cert.KernelIdeal.S131072, .f32⟩ : BufTy).Contents (Elt F))) (eq2 (at_ fa8 (i := 96) rfl) :) (eq2 (at_ fb3 (i := 26) rfl) :) e170 e33
  have e172 : @Eq ((⟨Cert.KernelIdeal.S1x131072, .f32⟩ : BufTy).Contents (Elt F)) (Φ₁ (Proc.devRef .tc Cert.KernelIdeal.main_v3090)) (Φ₂ (Proc.devRef .tc Cert.ReferenceIdeal.main_v3109)) := step1 (α := ((⟨Cert.KernelIdeal.S131072, .f32⟩ : BufTy).Contents (Elt F))) (β := ((⟨Cert.KernelIdeal.S1x131072, .f32⟩ : BufTy).Contents (Elt F))) (eq1 (at_ fa8 (i := 97) rfl) :) (eq1 (at_ fb3 (i := 27) rfl) :) e171
  have e173 : @Eq ((⟨Cert.KernelIdeal.S32x131072, .f32⟩ : BufTy).Contents (Elt F)) (Φ₁ (Proc.devRef .tc Cert.KernelIdeal.main_v3091)) (Φ₂ (Proc.devRef .tc Cert.ReferenceIdeal.main_v3110)) := step1 (α := ((⟨Cert.KernelIdeal.S1x131072, .f32⟩ : BufTy).Contents (Elt F))) (β := ((⟨Cert.KernelIdeal.S32x131072, .f32⟩ : BufTy).Contents (Elt F))) (eq1 (at_ fa8 (i := 98) rfl) :) (eq1 (at_ fb3 (i := 28) rfl) :) e172
  have e174 : @Eq ((⟨Cert.KernelIdeal.S32x131072, .f32⟩ : BufTy).Contents (Elt F)) (Φ₁ (Proc.devRef .tc Cert.KernelIdeal.main_v3092)) (Φ₂ (Proc.devRef .tc Cert.ReferenceIdeal.main_v3111)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 99) rfl) :) (eq2 (at_ fb3 (i := 29) rfl) :) e128 e173
  have e175 : @Eq ((⟨Cert.KernelIdeal.S1x131072, .f32⟩ : BufTy).Contents (Elt F)) (Φ₁ (Proc.devRef .tc Cert.KernelIdeal.main_v3093)) (Φ₂ (Proc.devRef .tc Cert.ReferenceIdeal.main_v3112)) := step1 (α := ((⟨Cert.KernelIdeal.S131072, .f32⟩ : BufTy).Contents (Elt F))) (β := ((⟨Cert.KernelIdeal.S1x131072, .f32⟩ : BufTy).Contents (Elt F))) (eq1 (at_ fa8 (i := 100) rfl) :) (eq1 (at_ fb3 (i := 30) rfl) :) e34
  have e176 : @Eq ((⟨Cert.KernelIdeal.S32x131072, .f32⟩ : BufTy).Contents (Elt F)) (Φ₁ (Proc.devRef .tc Cert.KernelIdeal.main_v3094)) (Φ₂ (Proc.devRef .tc Cert.ReferenceIdeal.main_v3113)) := step1 (α := ((⟨Cert.KernelIdeal.S1x131072, .f32⟩ : BufTy).Contents (Elt F))) (β := ((⟨Cert.KernelIdeal.S32x131072, .f32⟩ : BufTy).Contents (Elt F))) (eq1 (at_ fa8 (i := 101) rfl) :) (eq1 (at_ fb3 (i := 31) rfl) :) e175
  have e177 : @Eq ((⟨Cert.KernelIdeal.S32x131072, .f32⟩ : BufTy).Contents (Elt F)) (Φ₁ (Proc.devRef .tc Cert.KernelIdeal.main_v3095)) (Φ₂ (Proc.devRef .tc Cert.ReferenceIdeal.main_v3114)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 102) rfl) :) (eq2 (at_ fb3 (i := 32) rfl) :) e174 e176
  have e178 : @Eq ((⟨Cert.KernelIdeal.S32x131072, .f32⟩ : BufTy).Contents (Elt F)) (Φ₁ (Proc.devRef .tc Cert.KernelIdeal.main_v3096)) (Φ₂ (Proc.devRef .tc Cert.ReferenceIdeal.main_v3115)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 103) rfl) :) (eq2 (at_ fb3 (i := 33) rfl) :) e168 e177
  have e179 : @Eq ((⟨Cert.KernelIdeal.S1x131072, .f32⟩ : BufTy).Contents (Elt F)) (Φ₁ (Proc.devRef .tc Cert.KernelIdeal.main_v3097)) (Φ₂ (Proc.devRef .tc Cert.ReferenceIdeal.main_v3116)) := step1 (α := ((⟨Cert.KernelIdeal.S131072, .f32⟩ : BufTy).Contents (Elt F))) (β := ((⟨Cert.KernelIdeal.S1x131072, .f32⟩ : BufTy).Contents (Elt F))) (eq1 (at_ fa8 (i := 104) rfl) :) (eq1 (at_ fb3 (i := 34) rfl) :) e33
  have e180 : @Eq ((⟨Cert.KernelIdeal.S32x131072, .f32⟩ : BufTy).Contents (Elt F)) (Φ₁ (Proc.devRef .tc Cert.KernelIdeal.main_v3098)) (Φ₂ (Proc.devRef .tc Cert.ReferenceIdeal.main_v3117)) := step1 (α := ((⟨Cert.KernelIdeal.S1x131072, .f32⟩ : BufTy).Contents (Elt F))) (β := ((⟨Cert.KernelIdeal.S32x131072, .f32⟩ : BufTy).Contents (Elt F))) (eq1 (at_ fa8 (i := 105) rfl) :) (eq1 (at_ fb3 (i := 35) rfl) :) e179
  have e181 : @Eq ((⟨Cert.KernelIdeal.S32x131072, .f32⟩ : BufTy).Contents (Elt F)) (Φ₁ (Proc.devRef .tc Cert.KernelIdeal.main_v3099)) (Φ₂ (Proc.devRef .tc Cert.ReferenceIdeal.main_v3118)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 106) rfl) :) (eq2 (at_ fb3 (i := 36) rfl) :) e146 e180
  have e182 : @Eq ((⟨Cert.KernelIdeal.S1x131072, .f32⟩ : BufTy).Contents (Elt F)) (Φ₁ (Proc.devRef .tc Cert.KernelIdeal.main_v3100)) (Φ₂ (Proc.devRef .tc Cert.ReferenceIdeal.main_v3119)) := step1 (α := ((⟨Cert.KernelIdeal.S131072, .f32⟩ : BufTy).Contents (Elt F))) (β := ((⟨Cert.KernelIdeal.S1x131072, .f32⟩ : BufTy).Contents (Elt F))) (eq1 (at_ fa8 (i := 107) rfl) :) (eq1 (at_ fb3 (i := 37) rfl) :) e34
  have e183 : @Eq ((⟨Cert.KernelIdeal.S32x131072, .f32⟩ : BufTy).Contents (Elt F)) (Φ₁ (Proc.devRef .tc Cert.KernelIdeal.main_v3101)) (Φ₂ (Proc.devRef .tc Cert.ReferenceIdeal.main_v3120)) := step1 (α := ((⟨Cert.KernelIdeal.S1x131072, .f32⟩ : BufTy).Contents (Elt F))) (β := ((⟨Cert.KernelIdeal.S32x131072, .f32⟩ : BufTy).Contents (Elt F))) (eq1 (at_ fa8 (i := 108) rfl) :) (eq1 (at_ fb3 (i := 38) rfl) :) e182
  have e184 : @Eq ((⟨Cert.KernelIdeal.S32x131072, .f32⟩ : BufTy).Contents (Elt F)) (Φ₁ (Proc.devRef .tc Cert.KernelIdeal.main_v3102)) (Φ₂ (Proc.devRef .tc Cert.ReferenceIdeal.main_v3121)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 109) rfl) :) (eq2 (at_ fb3 (i := 39) rfl) :) e181 e183
  have e185 : @Eq ((⟨Cert.KernelIdeal.S32x131072, .f32⟩ : BufTy).Contents (Elt F)) (Φ₁ (Proc.devRef .tc Cert.KernelIdeal.main_v3103)) (Φ₂ (Proc.devRef .tc Cert.ReferenceIdeal.main_v3122)) := step2 (α₁ := ((⟨Cert.KernelIdeal.S32x131072, .f32⟩ : BufTy).Contents (Elt F))) (α₂ := ((⟨Cert.KernelIdeal.S32x131072, .f32⟩ : BufTy).Contents (Elt F))) (β := ((⟨Cert.KernelIdeal.S32x131072, .f32⟩ : BufTy).Contents (Elt F))) (eq2 (at_ fa8 (i := 110) rfl) :) (eq2 (at_ fb3 (i := 40) rfl) :) e178 e184
  have e186 : @Eq ((⟨Cert.KernelIdeal.S131072x32, .f32⟩ : BufTy).Contents (Elt F)) (Φ₁ (Proc.devRef .tc Cert.KernelIdeal.main_v3104)) (Φ₂ (Proc.devRef .tc Cert.ReferenceIdeal.main_v3123)) := by rw [eq1 (at_ fa8 (i := 111) rfl), eq1 (at_ fb3 (i := 41) rfl), e185] <;> rfl
  exact e186

end Cert.Bridge

end
-- ==== Proof.RefOpsAll.lean ====
/- All of the program's host operations, the listed pieces one after the other, are ONE single-assignment line starting at
   buffer 28 (the first buffer after the 28 arguments): each piece is such a line and starts where the one before ends. -/
import proofs.«133805_j10187662426200_2_alg».proof.Proof.RefOps0
import proofs.«133805_j10187662426200_2_alg».proof.Proof.RefOps1
import proofs.«133805_j10187662426200_2_alg».proof.Proof.RefOps2
import proofs.«133805_j10187662426200_2_alg».proof.Proof.RefOps3
import proofs.«133805_j10187662426200_2_alg».proof.Proof.RefOps4
import proofs.«133805_j10187662426200_2_alg».proof.Proof.RefOps5
import proofs.«133805_j10187662426200_2_alg».proof.Proof.RefOps6
import proofs.«133805_j10187662426200_2_alg».proof.Proof.RefOps7
import proofs.«133805_j10187662426200_2_alg».proof.Proof.RefOps8

set_option maxRecDepth 65536

noncomputable section

namespace Cert.ReferenceIdeal.Ops

open Cert.ReferenceIdeal Cert.ReferenceIdeal.Gen Idealize.ShloMosaic Idealize.ShloMosaic.TcCoe Idealize.SL.Sem Idealize.ShloMosaic.StableHlo Cert.HostFold

variable {F : FTy → Type} [FloatOps F]

/-- The pieces, in order. -/
abbrev pieces : List (List (HloOp τ sig (Elt F))) :=
  [w0, w1, w2, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60, w61, w62, w63, w64, w65, w66, w67]

set_option maxHeartbeats 4000000 in
theorem all_chain : Chain 28 (List.flatten pieces : List (HloOp τ sig (Elt F))) := by
  show Chain 28 (w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22 ++ (w23 ++ (w24 ++ (w25 ++ (w26 ++ (w27 ++ (w28 ++ (w29 ++ (w30 ++ (w31 ++ (w32 ++ (w33 ++ (w34 ++ (w35 ++ (w36 ++ (w37 ++ (w38 ++ (w39 ++ (w40 ++ (w41 ++ (w42 ++ (w43 ++ (w44 ++ (w45 ++ (w46 ++ (w47 ++ (w48 ++ (w49 ++ (w50 ++ (w51 ++ (w52 ++ (w53 ++ (w54 ++ (w55 ++ (w56 ++ (w57 ++ (w58 ++ (w59 ++ (w60 ++ (w61 ++ (w62 ++ (w63 ++ (w64 ++ (w65 ++ (w66 ++ (w67 ++ []))))))))))))))))))))))))))))))))))))))))))))))))))))))))))))))))))))
  exact
    Chain.append' w0_chain w0_length rfl <|
    Chain.append' w1_chain w1_length rfl <|
    Chain.append' w2_chain w2_length rfl <|
    Chain.append' w3_chain w3_length rfl <|
    Chain.append' w4_chain w4_length rfl <|
    Chain.append' w5_chain w5_length rfl <|
    Chain.append' w6_chain w6_length rfl <|
    Chain.append' w7_chain w7_length rfl <|
    Chain.append' w8_chain w8_length rfl <|
    Chain.append' w9_chain w9_length rfl <|
    Chain.append' w10_chain w10_length rfl <|
    Chain.append' w11_chain w11_length rfl <|
    Chain.append' w12_chain w12_length rfl <|
    Chain.append' w13_chain w13_length rfl <|
    Chain.append' w14_chain w14_length rfl <|
    Chain.append' w15_chain w15_length rfl <|
    Chain.append' w16_chain w16_length rfl <|
    Chain.append' w17_chain w17_length rfl <|
    Chain.append' w18_chain w18_length rfl <|
    Chain.append' w19_chain w19_length rfl <|
    Chain.append' w20_chain w20_length rfl <|
    Chain.append' w21_chain w21_length rfl <|
    Chain.append' w22_chain w22_length rfl <|
    Chain.append' w23_chain w23_length rfl <|
    Chain.append' w24_chain w24_length rfl <|
    Chain.append' w25_chain w25_length rfl <|
    Chain.append' w26_chain w26_length rfl <|
    Chain.append' w27_chain w27_length rfl <|
    Chain.append' w28_chain w28_length rfl <|
    Chain.append' w29_chain w29_length rfl <|
    Chain.append' w30_chain w30_length rfl <|
    Chain.append' w31_chain w31_length rfl <|
    Chain.append' w32_chain w32_length rfl <|
    Chain.append' w33_chain w33_length rfl <|
    Chain.append' w34_chain w34_length rfl <|
    Chain.append' w35_chain w35_length rfl <|
    Chain.append' w36_chain w36_length rfl <|
    Chain.append' w37_chain w37_length rfl <|
    Chain.append' w38_chain w38_length rfl <|
    Chain.append' w39_chain w39_length rfl <|
    Chain.append' w40_chain w40_length rfl <|
    Chain.append' w41_chain w41_length rfl <|
    Chain.append' w42_chain w42_length rfl <|
    Chain.append' w43_chain w43_length rfl <|
    Chain.append' w44_chain w44_length rfl <|
    Chain.append' w45_chain w45_length rfl <|
    Chain.append' w46_chain w46_length rfl <|
    Chain.append' w47_chain w47_length rfl <|
    Chain.append' w48_chain w48_length rfl <|
    Chain.append' w49_chain w49_length rfl <|
    Chain.append' w50_chain w50_length rfl <|
    Chain.append' w51_chain w51_length rfl <|
    Chain.append' w52_chain w52_length rfl <|
    Chain.append' w53_chain w53_length rfl <|
    Chain.append' w54_chain w54_length rfl <|
    Chain.append' w55_chain w55_length rfl <|
    Chain.append' w56_chain w56_length rfl <|
    Chain.append' w57_chain w57_length rfl <|
    Chain.append' w58_chain w58_length rfl <|
    Chain.append' w59_chain w59_length rfl <|
    Chain.append' w60_chain w60_length rfl <|
    Chain.append' w61_chain w61_length rfl <|
    Chain.append' w62_chain w62_length rfl <|
    Chain.append' w63_chain w63_length rfl <|
    Chain.append' w64_chain w64_length rfl <|
    Chain.append' w65_chain w65_length rfl <|
    Chain.append' w66_chain w66_length rfl <|
    Chain.append' w67_chain w67_length rfl <|
    Chain.nil

end Cert.ReferenceIdeal.Ops

end
-- ==== Proof.RefRun.lean ====
/-
  The reference program's run. @main is a straight line of host operations — the windows' lists one after the other
  (a called function's operations standing at its call) — on a signature that scopes no buffer and no semaphore; so
  every weakly fair execution terminates without a fault, and each buffer ends at the fold of the operations over the
  launch contents. The line is single-assignment from buffer 28 on, so the 28 argument buffers end as launched, and the
  final contents satisfy every operation's own equation. Nothing is said here about what the operations compute.
-/
import proofs.«133805_j10187662426200_2_alg».proof.Proof.RefOpsAll

set_option maxRecDepth 65536

noncomputable section

namespace Cert.ReferenceIdeal.HostRun

open Cert.ReferenceIdeal Cert.ReferenceIdeal.Gen Cert.ReferenceIdeal.Ops Idealize.ShloMosaic Idealize.ShloMosaic.TcCoe Idealize.SL.Sem
  Idealize.ShloMosaic.StableHlo Cert.HostFold

variable {F : FTy → Type} [FloatOps F]

/-- All of @main's operations, in order. -/
abbrev ops : List (HloOp τ sig (Elt F)) := List.flatten pieces

theorem ops_eq : (ops : List (HloOp τ sig (Elt F))) = w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22 ++ (w23 ++ (w24 ++ (w25 ++ (w26 ++ (w27 ++ (w28 ++ (w29 ++ (w30 ++ (w31 ++ (w32 ++ (w33 ++ (w34 ++ (w35 ++ (w36 ++ (w37 ++ (w38 ++ (w39 ++ (w40 ++ (w41 ++ (w42 ++ (w43 ++ (w44 ++ (w45 ++ (w46 ++ (w47 ++ (w48 ++ (w49 ++ (w50 ++ (w51 ++ (w52 ++ (w53 ++ (w54 ++ (w55 ++ (w56 ++ (w57 ++ (w58 ++ (w59 ++ (w60 ++ (w61 ++ (w62 ++ (w63 ++ (w64 ++ (w65 ++ (w66 ++ (w67 ++ ([])))))))))))))))))))))))))))))))))))))))))))))))))))))))))))))))))))) := rfl

/-- @main is the straight line of its operations: window by window, then the windows joined. -/
theorem main_eq (c : Dev nD) : main (F := F) c = seq ops := by
  rw [ops_eq]
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c >>= fun _ => main_part16 (F := F) c >>= fun _ => main_part17 (F := F) c >>= fun _ => main_part18 (F := F) c >>= fun _ => main_part19 (F := F) c >>= fun _ => main_part20 (F := F) c >>= fun _ => main_part21 (F := F) c >>= fun _ => main_part22 (F := F) c >>= fun _ => main_part23 (F := F) c >>= fun _ => main_part24 (F := F) c >>= fun _ => main_part25 (F := F) c >>= fun _ => main_part26 (F := F) c >>= fun _ => main_part27 (F := F) c >>= fun _ => main_part28 (F := F) c >>= fun _ => main_part29 (F := F) c >>= fun _ => main_part30 (F := F) c >>= fun _ => main_part31 (F := F) c >>= fun _ => main_part32 (F := F) c >>= fun _ => main_part33 (F := F) c >>= fun _ => main_part34 (F := F) c >>= fun _ => main_part35 (F := F) c >>= fun _ => main_part36 (F := F) c >>= fun _ => main_part37 (F := F) c >>= fun _ => main_part38 (F := F) c >>= fun _ => main_part39 (F := F) c >>= fun _ => main_part40 (F := F) c >>= fun _ => main_part41 (F := F) c >>= fun _ => main_part42 (F := F) c >>= fun _ => main_part43 (F := F) c >>= fun _ => main_part44 (F := F) c >>= fun _ => main_part45 (F := F) c >>= fun _ => main_part46 (F := F) c >>= fun _ => main_part47 (F := F) c >>= fun _ => main_part48 (F := F) c >>= fun _ => main_part49 (F := F) c >>= fun _ => main_part50 (F := F) c >>= fun _ => main_part51 (F := F) c >>= fun _ => main_part52 (F := F) c >>= fun _ => main_part53 (F := F) c >>= fun _ => main_part54 (F := F) c >>= fun _ => main_part55 (F := F) c >>= fun _ => main_part56 (F := F) c >>= fun _ => main_part57 (F := F) c >>= fun _ => main_part58 (F := F) c >>= fun _ => main_part59 (F := F) c >>= fun _ => main_part60 (F := F) c >>= fun _ => main_part61 (F := F) c >>= fun _ => main_part62 (F := F) c >>= fun _ => main_part63 (F := F) c >>= fun _ => main_part64 (F := F) c >>= fun _ => main_part65 (F := F) c >>= fun _ => main_part66 (F := F) c >>= fun _ => main_part67 (F := F) c) = _
  rw [w0_eq, w1_eq, w2_eq, w3_eq, w4_eq, w5_eq, w6_eq, w7_eq, w8_eq, w9_eq, w10_eq, w11_eq, w12_eq, w13_eq, w14_eq, w15_eq, w16_eq, w17_eq, w18_eq, w19_eq, w20_eq, w21_eq, w22_eq, w23_eq, w24_eq, w25_eq, w26_eq, w27_eq, w28_eq, w29_eq, w30_eq, w31_eq, w32_eq, w33_eq, w34_eq, w35_eq, w36_eq, w37_eq, w38_eq, w39_eq, w40_eq, w41_eq, w42_eq, w43_eq, w44_eq, w45_eq, w46_eq, w47_eq, w48_eq, w49_eq, w50_eq, w51_eq, w52_eq, w53_eq, w54_eq, w55_eq, w56_eq, w57_eq, w58_eq, w59_eq, w60_eq, w61_eq, w62_eq, w63_eq, w64_eq, w65_eq, w66_eq, w67_eq]
  simp only [seq_append, List.append_nil]

theorem ops_sub : (ops : List (HloOp τ sig (Elt F))).Forall fun op => op.bufs ⊆ tcRefs τ sig := by
  rw [ops_eq]
  exact forall_append w0_sub (forall_append w1_sub (forall_append w2_sub (forall_append w3_sub (forall_append w4_sub (forall_append w5_sub (forall_append w6_sub (forall_append w7_sub (forall_append w8_sub (forall_append w9_sub (forall_append w10_sub (forall_append w11_sub (forall_append w12_sub (forall_append w13_sub (forall_append w14_sub (forall_append w15_sub (forall_append w16_sub (forall_append w17_sub (forall_append w18_sub (forall_append w19_sub (forall_append w20_sub (forall_append w21_sub (forall_append w22_sub (forall_append w23_sub (forall_append w24_sub (forall_append w25_sub (forall_append w26_sub (forall_append w27_sub (forall_append w28_sub (forall_append w29_sub (forall_append w30_sub (forall_append w31_sub (forall_append w32_sub (forall_append w33_sub (forall_append w34_sub (forall_append w35_sub (forall_append w36_sub (forall_append w37_sub (forall_append w38_sub (forall_append w39_sub (forall_append w40_sub (forall_append w41_sub (forall_append w42_sub (forall_append w43_sub (forall_append w44_sub (forall_append w45_sub (forall_append w46_sub (forall_append w47_sub (forall_append w48_sub (forall_append w49_sub (forall_append w50_sub (forall_append w51_sub (forall_append w52_sub (forall_append w53_sub (forall_append w54_sub (forall_append w55_sub (forall_append w56_sub (forall_append w57_sub (forall_append w58_sub (forall_append w59_sub (forall_append w60_sub (forall_append w61_sub (forall_append w62_sub (forall_append w63_sub (forall_append w64_sub (forall_append w65_sub (forall_append w66_sub (forall_append w67_sub (trivial))))))))))))))))))))))))))))))))))))))))))))))))))))))))))))))))))))

theorem ops_fresh : (ops : List (HloOp τ sig (Elt F))).Forall fun op => op.fresh = ∅ := by
  rw [ops_eq]
  exact forall_append w0_fresh (forall_append w1_fresh (forall_append w2_fresh (forall_append w3_fresh (forall_append w4_fresh (forall_append w5_fresh (forall_append w6_fresh (forall_append w7_fresh (forall_append w8_fresh (forall_append w9_fresh (forall_append w10_fresh (forall_append w11_fresh (forall_append w12_fresh (forall_append w13_fresh (forall_append w14_fresh (forall_append w15_fresh (forall_append w16_fresh (forall_append w17_fresh (forall_append w18_fresh (forall_append w19_fresh (forall_append w20_fresh (forall_append w21_fresh (forall_append w22_fresh (forall_append w23_fresh (forall_append w24_fresh (forall_append w25_fresh (forall_append w26_fresh (forall_append w27_fresh (forall_append w28_fresh (forall_append w29_fresh (forall_append w30_fresh (forall_append w31_fresh (forall_append w32_fresh (forall_append w33_fresh (forall_append w34_fresh (forall_append w35_fresh (forall_append w36_fresh (forall_append w37_fresh (forall_append w38_fresh (forall_append w39_fresh (forall_append w40_fresh (forall_append w41_fresh (forall_append w42_fresh (forall_append w43_fresh (forall_append w44_fresh (forall_append w45_fresh (forall_append w46_fresh (forall_append w47_fresh (forall_append w48_fresh (forall_append w49_fresh (forall_append w50_fresh (forall_append w51_fresh (forall_append w52_fresh (forall_append w53_fresh (forall_append w54_fresh (forall_append w55_fresh (forall_append w56_fresh (forall_append w57_fresh (forall_append w58_fresh (forall_append w59_fresh (forall_append w60_fresh (forall_append w61_fresh (forall_append w62_fresh (forall_append w63_fresh (forall_append w64_fresh (forall_append w65_fresh (forall_append w66_fresh (forall_append w67_fresh (trivial))))))))))))))))))))))))))))))))))))))))))))))))))))))))))))))))))))

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, nothing faulting, and every
    TensorCore buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- An argument buffer (numbers 0 … 27) ends as launched: the line writes from buffer 28 up. -/
theorem arg_kept (V : Valuation τ sig (Elt F)) (r : Ref sig .tc) (hr : r.idx.val < 28) :
    after ops V (Proc.devRef .tc r) = V (Proc.devRef .tc r) :=
  after_keeps ops V all_chain.from r hr

/-- The final contents satisfy the equation of every operation of every window. -/
theorem fixed (V : Valuation τ sig (Elt F)) {w : List (HloOp τ sig (Elt F))} (hw : w ∈ (pieces : List (List (HloOp τ sig (Elt F))))) :
    w.Forall fun op => ∀ b ∈ op.writes, after ops V b = op.result (after ops V) b :=
  fixed_of_mem (all_chain.fixed V) hw

end Cert.ReferenceIdeal.HostRun

end
-- ==== Proof.RefTail.lean ====
/-
  The reference's last operations — the four feature arrays laid side by side, the product with the first weight
  matrix, the clip at zero, the product with the second weight matrix, and the rearrangement of the result's columns —
  as one function of the features and the weights, and the proof that this function is the specification `mlp`.

  Index by index the two differ by one regrouping only: the reference's product with the first weight matrix is one sum
  of 128 terms, the specification adds four sums of 32 terms. Addition of extended reals is commutative and
  associative, so the 128-term sum splits into its four consecutive runs; no product is re-associated and no value
  needs to be finite.
-/
import proofs.«133805_j10187662426200_2_alg».proof.ReferenceIdeal
import proofs.«133805_j10187662426200_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Tail

open Idealize.ShloMosaic Idealize.ShloMosaic.ValueIdx
open Cert.KPlanes

/-! ## Regrouping a sum of 128 terms -/

/-- Row `32 s + k` is the image of the pair `(s, k)` under the row-major bijection `Fin 4 × Fin 32 ≃ Fin 128`. -/
theorem finProd_eq_w1row (s : Fin 4) (k : Fin 32) :
    (finProdFinEquiv (s, k) : Fin (4 * 32)) = w1row s k := by
  apply Fin.ext
  show k.val + 32 * s.val = 32 * s.val + k.val
  omega

/-- In a commutative monoid a sum of 128 terms is the sum of its four consecutive runs of 32 terms, added left to
    right. Nothing is asked of the terms: only that addition is commutative and associative. -/
theorem sum128_split {M : Type*} [AddCommMonoid M] (g : Fin 128 → M) :
    ∑ k' : Fin 128, g k'
      = ((∑ k : Fin 32, g (w1row 0 k) + ∑ k : Fin 32, g (w1row 1 k)) + ∑ k : Fin 32, g (w1row 2 k))
          + ∑ k : Fin 32, g (w1row 3 k) := by
  have h := (Equiv.sum_comp (finProdFinEquiv : Fin 4 × Fin 32 ≃ Fin (4 * 32)) g).symm
  rw [Fintype.sum_prod_type, Fin.sum_univ_four] at h
  simp only [finProd_eq_w1row] at h
  exact h

/-! ## Concatenations and slices read at an index -/

section Layout
variable {α : Type}

/-- Four arrays of 32 columns laid side by side: column `32 s + k` of the whole is column `k` of piece `s`. -/
theorem cat4_apply (x0 x1 x2 x3 : S131072x32.Idx → α)
    (h : Shape.Concatenates [S131072x32, S131072x32, S131072x32, S131072x32] S131072x128 1)
    (n : Fin 131072) (s : Fin 4) (k : Fin 32) :
    concatenate S131072x128 1 [⟨S131072x32, x0⟩, ⟨S131072x32, x1⟩, ⟨S131072x32, x2⟩, ⟨S131072x32, x3⟩] h (ix2 n (w1row s k))
      = (![x0, x1, x2, x3] s) (ix2 n k) := by
  have hi : ∀ b : Fin S131072x32.rank, b.cast (rfl : S131072x32.rank = S131072x128.rank) ≠ (1 : Fin S131072x128.rank) →
      ((ix2 n k : S131072x32.Idx) b).val = ((ix2 n (w1row s k) : S131072x128.Idx) (b.cast rfl)).val := fun b =>
    match b with
    | ⟨0, _⟩ => fun _ => rfl
    | ⟨1, _⟩ => fun hb => absurd rfl hb
  match s with
  | ⟨0, _⟩ =>
    exact concatenate_apply_piece (t := S131072x128) 1 [⟨S131072x32, x0⟩, ⟨S131072x32, x1⟩, ⟨S131072x32, x2⟩, ⟨S131072x32, x3⟩] h
      (ix2 n (w1row ⟨0, by decide⟩ k)) 0 (by simp) S131072x32 x0 rfl rfl 0 rfl (ix2 n k) hi
      (by show 0 + k.val = 32 * 0 + k.val; omega)
  | ⟨1, _⟩ =>
    exact concatenate_apply_piece (t := S131072x128) 1 [⟨S131072x32, x0⟩, ⟨S131072x32, x1⟩, ⟨S131072x32, x2⟩, ⟨S131072x32, x3⟩] h
      (ix2 n (w1row ⟨1, by decide⟩ k)) 1 (by simp) S131072x32 x1 rfl rfl 32 rfl (ix2 n k) hi
      (by show 32 + k.val = 32 * 1 + k.val; omega)
  | ⟨2, _⟩ =>
    exact concatenate_apply_piece (t := S131072x128) 1 [⟨S131072x32, x0⟩, ⟨S131072x32, x1⟩, ⟨S131072x32, x2⟩, ⟨S131072x32, x3⟩] h
      (ix2 n (w1row ⟨2, by decide⟩ k)) 2 (by simp) S131072x32 x2 rfl rfl 64 rfl (ix2 n k) hi
      (by show 64 + k.val = 32 * 2 + k.val; omega)
  | ⟨3, _⟩ =>
    exact concatenate_apply_piece (t := S131072x128) 1 [⟨S131072x32, x0⟩, ⟨S131072x32, x1⟩, ⟨S131072x32, x2⟩, ⟨S131072x32, x3⟩] h
      (ix2 n (w1row ⟨3, by decide⟩ k)) 3 (by simp) S131072x32 x3 rfl rfl 96 rfl (ix2 n k) hi
      (by show 96 + k.val = 32 * 3 + k.val; omega)

/-- Columns `0‥31` of the whole are the first piece. -/
theorem cat4_apply_0 (x0 x1 x2 x3 : S131072x32.Idx → α)
    (h : Shape.Concatenates [S131072x32, S131072x32, S131072x32, S131072x32] S131072x128 1) (n : Fin 131072) (k : Fin 32) :
    concatenate S131072x128 1 [⟨S131072x32, x0⟩, ⟨S131072x32, x1⟩, ⟨S131072x32, x2⟩, ⟨S131072x32, x3⟩] h (ix2 n (w1row 0 k))
      = x0 (ix2 n k) := cat4_apply x0 x1 x2 x3 h n 0 k
/-- Columns `32‥63` of the whole are the second piece. -/
theorem cat4_apply_1 (x0 x1 x2 x3 : S131072x32.Idx → α)
    (h : Shape.Concatenates [S131072x32, S131072x32, S131072x32, S131072x32] S131072x128 1) (n : Fin 131072) (k : Fin 32) :
    concatenate S131072x128 1 [⟨S131072x32, x0⟩, ⟨S131072x32, x1⟩, ⟨S131072x32, x2⟩, ⟨S131072x32, x3⟩] h (ix2 n (w1row 1 k))
      = x1 (ix2 n k) := cat4_apply x0 x1 x2 x3 h n 1 k
/-- Columns `64‥95` of the whole are the third piece. -/
theorem cat4_apply_2 (x0 x1 x2 x3 : S131072x32.Idx → α)
    (h : Shape.Concatenates [S131072x32, S131072x32, S131072x32, S131072x32] S131072x128 1) (n : Fin 131072) (k : Fin 32) :
    concatenate S131072x128 1 [⟨S131072x32, x0⟩, ⟨S131072x32, x1⟩, ⟨S131072x32, x2⟩, ⟨S131072x32, x3⟩] h (ix2 n (w1row 2 k))
      = x2 (ix2 n k) := cat4_apply x0 x1 x2 x3 h n 2 k
/-- Columns `96‥127` of the whole are the fourth piece. -/
theorem cat4_apply_3 (x0 x1 x2 x3 : S131072x32.Idx → α)
    (h : Shape.Concatenates [S131072x32, S131072x32, S131072x32, S131072x32] S131072x128 1) (n : Fin 131072) (k : Fin 32) :
    concatenate S131072x128 1 [⟨S131072x32, x0⟩, ⟨S131072x32, x1⟩, ⟨S131072x32, x2⟩, ⟨S131072x32, x3⟩] h (ix2 n (w1row 3 k))
      = x3 (ix2 n k) := cat4_apply x0 x1 x2 x3 h n 3 k

/-- One column in front of fifteen: column 0 of the whole is the front piece's only column. -/
theorem cat2_apply_zero (a : S131072x1.Idx → α) (b : S131072x15.Idx → α)
    (h : Shape.Concatenates [S131072x1, S131072x15] S131072x16 1) (n : Fin 131072) :
    concatenate S131072x16 1 [⟨S131072x1, a⟩, ⟨S131072x15, b⟩] h (ix2 n (0 : Fin 16)) = a (ix2 n (0 : Fin 1)) :=
  concatenate_pair_apply_left 1 a b h _ rfl (ix2 n (0 : Fin 1)) (fun c =>
    match c with
    | ⟨0, _⟩ => rfl
    | ⟨1, _⟩ => rfl)

/-- One column in front of fifteen: column `j + 1` of the whole is column `j` of the back piece. -/
theorem cat2_apply_succ (a : S131072x1.Idx → α) (b : S131072x15.Idx → α)
    (h : Shape.Concatenates [S131072x1, S131072x15] S131072x16 1) (n : Fin 131072) (j : Fin 15) :
    concatenate S131072x16 1 [⟨S131072x1, a⟩, ⟨S131072x15, b⟩] h (ix2 n (⟨j.val + 1, by have := j.isLt; omega⟩ : Fin 16))
      = b (ix2 n j) :=
  concatenate_pair_apply_right 1 a b h _ rfl rfl (ix2 n j) (fun c =>
    match c with
    | ⟨0, _⟩ => fun _ => rfl
    | ⟨1, _⟩ => fun hc => absurd rfl hc) rfl

/-- The last of sixteen columns, cut out as an array of one column. -/
theorem slice_last_apply (X : S131072x16.Idx → α) (h : S131072x16.Slices ![0, 15] S131072x1) (n : Fin 131072) :
    extractStridedSlice S131072x1 ![0, 15] X h (ix2 n (0 : Fin 1)) = X (ix2 n (⟨15, by decide⟩ : Fin 16)) :=
  slice2_axis1_apply 15 X h n 0 ⟨15, by decide⟩ rfl

/-- The first fifteen of sixteen columns. -/
theorem slice_front_apply (X : S131072x16.Idx → α) (h : S131072x16.Slices ![0, 0] S131072x15) (n : Fin 131072) (j : Fin 15) :
    extractStridedSlice S131072x15 ![0, 0] X h (ix2 n j) = X (ix2 n (⟨j.val, by have := j.isLt; omega⟩ : Fin 16)) :=
  slice2_axis1_apply 0 X h n j ⟨j.val, by have := j.isLt; omega⟩ (Nat.zero_add _).symm

end Layout

/-! ## The elementwise operations read at an index -/

/-- The exponential of an array is the exponential of each element. -/
theorem hostExp_apply {s : Shape} (X : FVec Ideal s .f32) (i : s.Idx) : Host.exp (F := Ideal) X i = Ideal.exp (X i) := rfl

/-- The maximum with the zero constant broadcast to the whole array is `max · 0` at each element. -/
theorem relu0_apply (X : FVec Ideal S131072x64 .f32) (h : S_.BroadcastsInDim S131072x64 (![] : Fin 0 → Fin S131072x64.rank))
    (n : Fin 131072) (q : Fin 64) :
    maximumf X (broadcastInDim S131072x64 ![] h (constant (F := Ideal) S_ .f32 0x00000000#32)) (ix2 n q)
      = max (X (ix2 n q)) 0 := by
  rw [maximumf_apply, broadcastInDim_apply ![] h _ (ix2 n q) ix0 (fun a => a.elim0), constant_apply, Ideal.ofBits_zero_f32]

/-! ## The two matrix products read at an index -/

section Products
variable [Facts₀]
open Facts₀

theorem dotW1_lhs0 (i : S131072x64.Idx) (q : dot_S131072x128_S128x64_S131072x64_1_0_0_1_n_n.contr.Idx) : (dot_S131072x128_S128x64_S131072x64_1_0_0_1_n_n.lhsIdx i q 0).val = (i 0).val := by
  unfold DotDims.lhsIdx
  rw [dif_neg (show ¬(0 : Fin S131072x128.rank) ∈ dot_S131072x128_S128x64_S131072x64_1_0_0_1_n_n.lhsBatch from List.not_mem_nil),
    dif_pos (show (0 : Fin S131072x128.rank) ∈ dot_S131072x128_S128x64_S131072x64_1_0_0_1_n_n.lhsNonContracting from List.mem_singleton.mpr rfl)]
  rfl
theorem dotW1_lhs1 (i : S131072x64.Idx) (q : dot_S131072x128_S128x64_S131072x64_1_0_0_1_n_n.contr.Idx) : (dot_S131072x128_S128x64_S131072x64_1_0_0_1_n_n.lhsIdx i q 1).val = (q ⟨0, Nat.one_pos⟩).val :=
  dot_S131072x128_S128x64_S131072x64_1_0_0_1_n_n.lhsIdx_val_of_single rfl i q
theorem dotW1_rhs0 (i : S131072x64.Idx) (q : dot_S131072x128_S128x64_S131072x64_1_0_0_1_n_n.contr.Idx) : (dot_S131072x128_S128x64_S131072x64_1_0_0_1_n_n.rhsIdx i q 0).val = (q ⟨0, Nat.one_pos⟩).val :=
  dot_S131072x128_S128x64_S131072x64_1_0_0_1_n_n.rhsIdx_val_of_single rfl i q
theorem dotW1_rhs1 (i : S131072x64.Idx) (q : dot_S131072x128_S128x64_S131072x64_1_0_0_1_n_n.contr.Idx) : (dot_S131072x128_S128x64_S131072x64_1_0_0_1_n_n.rhsIdx i q 1).val = (i 1).val := by
  unfold DotDims.rhsIdx
  rw [dif_neg (show ¬(1 : Fin S128x64.rank) ∈ dot_S131072x128_S128x64_S131072x64_1_0_0_1_n_n.rhsBatch from List.not_mem_nil),
    dif_pos (show (1 : Fin S128x64.rank) ∈ dot_S131072x128_S128x64_S131072x64_1_0_0_1_n_n.rhsNonContracting from List.mem_singleton.mpr rfl)]
  rfl

/-- The first product at row `n`, unit `q`: the 128-term sum over the concatenated features' columns. -/
theorem dotW1_apply (X : FVec Ideal S131072x128 .f32) (W : FVec Ideal S128x64 .f32) (n : Fin 131072) (c : Fin 64) :
    Host.dotGeneral (F := Ideal) dot_S131072x128_S128x64_S131072x64_1_0_0_1_n_n none X W (ix2 n c) = ∑ k : Fin 128, X (ix2 n k) * W (ix2 k c) := by
  simp only [Host.dotGeneral]
  rw [Ideal.dotGeneral_apply, ← Equiv.sum_comp (contrEquiv1 dot_S131072x128_S128x64_S131072x64_1_0_0_1_n_n 128 rfl rfl).symm]
  refine Finset.sum_congr rfl fun k _ => ?_
  have hk := contrEquiv1_symm_val dot_S131072x128_S128x64_S131072x64_1_0_0_1_n_n 128 rfl rfl k
  have el : dot_S131072x128_S128x64_S131072x64_1_0_0_1_n_n.lhsIdx (ix2 n c) ((contrEquiv1 dot_S131072x128_S128x64_S131072x64_1_0_0_1_n_n 128 rfl rfl).symm k) = ix2 n k :=
    funext fun a => Fin.ext (by
      match a with
      | ⟨0, _⟩ => exact dotW1_lhs0 _ _
      | ⟨1, _⟩ => exact (dotW1_lhs1 _ _).trans hk)
  have er : dot_S131072x128_S128x64_S131072x64_1_0_0_1_n_n.rhsIdx (ix2 n c) ((contrEquiv1 dot_S131072x128_S128x64_S131072x64_1_0_0_1_n_n 128 rfl rfl).symm k) = ix2 k c :=
    funext fun a => Fin.ext (by
      match a with
      | ⟨0, _⟩ => exact (dotW1_rhs0 _ _).trans hk
      | ⟨1, _⟩ => exact dotW1_rhs1 _ _)
  rw [el, er]

theorem dotW2_lhs0 (i : S131072x16.Idx) (q : dot_S131072x64_S64x16_S131072x16_1_0_0_1_n_n.contr.Idx) : (dot_S131072x64_S64x16_S131072x16_1_0_0_1_n_n.lhsIdx i q 0).val = (i 0).val := by
  unfold DotDims.lhsIdx
  rw [dif_neg (show ¬(0 : Fin S131072x64.rank) ∈ dot_S131072x64_S64x16_S131072x16_1_0_0_1_n_n.lhsBatch from List.not_mem_nil),
    dif_pos (show (0 : Fin S131072x64.rank) ∈ dot_S131072x64_S64x16_S131072x16_1_0_0_1_n_n.lhsNonContracting from List.mem_singleton.mpr rfl)]
  rfl
theorem dotW2_lhs1 (i : S131072x16.Idx) (q : dot_S131072x64_S64x16_S131072x16_1_0_0_1_n_n.contr.Idx) : (dot_S131072x64_S64x16_S131072x16_1_0_0_1_n_n.lhsIdx i q 1).val = (q ⟨0, Nat.one_pos⟩).val :=
  dot_S131072x64_S64x16_S131072x16_1_0_0_1_n_n.lhsIdx_val_of_single rfl i q
theorem dotW2_rhs0 (i : S131072x16.Idx) (q : dot_S131072x64_S64x16_S131072x16_1_0_0_1_n_n.contr.Idx) : (dot_S131072x64_S64x16_S131072x16_1_0_0_1_n_n.rhsIdx i q 0).val = (q ⟨0, Nat.one_pos⟩).val :=
  dot_S131072x64_S64x16_S131072x16_1_0_0_1_n_n.rhsIdx_val_of_single rfl i q
theorem dotW2_rhs1 (i : S131072x16.Idx) (q : dot_S131072x64_S64x16_S131072x16_1_0_0_1_n_n.contr.Idx) : (dot_S131072x64_S64x16_S131072x16_1_0_0_1_n_n.rhsIdx i q 1).val = (i 1).val := by
  unfold DotDims.rhsIdx
  rw [dif_neg (show ¬(1 : Fin S64x16.rank) ∈ dot_S131072x64_S64x16_S131072x16_1_0_0_1_n_n.rhsBatch from List.not_mem_nil),
    dif_pos (show (1 : Fin S64x16.rank) ∈ dot_S131072x64_S64x16_S131072x16_1_0_0_1_n_n.rhsNonContracting from List.mem_singleton.mpr rfl)]
  rfl

/-- The second product at row `n`, column `c`: the 64-term sum over the hidden units. -/
theorem dotW2_apply (X : FVec Ideal S131072x64 .f32) (W : FVec Ideal S64x16 .f32) (n : Fin 131072) (c : Fin 16) :
    Host.dotGeneral (F := Ideal) dot_S131072x64_S64x16_S131072x16_1_0_0_1_n_n none X W (ix2 n c) = ∑ k : Fin 64, X (ix2 n k) * W (ix2 k c) := by
  simp only [Host.dotGeneral]
  rw [Ideal.dotGeneral_apply, ← Equiv.sum_comp (contrEquiv1 dot_S131072x64_S64x16_S131072x16_1_0_0_1_n_n 64 rfl rfl).symm]
  refine Finset.sum_congr rfl fun k _ => ?_
  have hk := contrEquiv1_symm_val dot_S131072x64_S64x16_S131072x16_1_0_0_1_n_n 64 rfl rfl k
  have el : dot_S131072x64_S64x16_S131072x16_1_0_0_1_n_n.lhsIdx (ix2 n c) ((contrEquiv1 dot_S131072x64_S64x16_S131072x16_1_0_0_1_n_n 64 rfl rfl).symm k) = ix2 n k :=
    funext fun a => Fin.ext (by
      match a with
      | ⟨0, _⟩ => exact dotW2_lhs0 _ _
      | ⟨1, _⟩ => exact (dotW2_lhs1 _ _).trans hk)
  have er : dot_S131072x64_S64x16_S131072x16_1_0_0_1_n_n.rhsIdx (ix2 n c) ((contrEquiv1 dot_S131072x64_S64x16_S131072x16_1_0_0_1_n_n 64 rfl rfl).symm k) = ix2 k c :=
    funext fun a => Fin.ext (by
      match a with
      | ⟨0, _⟩ => exact (dotW2_rhs0 _ _).trans hk
      | ⟨1, _⟩ => exact dotW2_rhs1 _ _)
  rw [el, er]

/-! ## The tail as one function, and its value -/

/-- The reference's last operations as one function of the four feature arrays and the two weight matrices: the
    features laid side by side, the 128-wide product with `W1`, the maximum with zero, the product with `W2`, and the
    result's columns rearranged — the exponential of column 15 in front of columns `0‥14`. -/
def tailFn (f0 f1 f2 f3 : FVec Ideal S131072x32 .f32) (W1 : FVec Ideal S128x64 .f32) (W2 : FVec Ideal S64x16 .f32) :
    FVec Ideal S131072x16 .f32 :=
  concatenate S131072x16 1
    [⟨S131072x1, Host.exp (F := Ideal) (extractStridedSlice S131072x1 ![0, 15]
        (Host.dotGeneral (F := Ideal) dot_S131072x64_S64x16_S131072x16_1_0_0_1_n_n none (maximumf (Host.dotGeneral (F := Ideal) dot_S131072x128_S128x64_S131072x64_1_0_0_1_n_n none (concatenate S131072x128 1 [⟨S131072x32, f0⟩, ⟨S131072x32, f1⟩, ⟨S131072x32, f2⟩, ⟨S131072x32, f3⟩] concatenates_S131072x32_S131072x32_S131072x32_S131072x32_S131072x128_d1) W1) (broadcastInDim S131072x64 ![] bcast_S_S131072x64 (constant (F := Ideal) S_ .f32 0x00000000#32))) W2)
        slices_S131072x16_S131072x1_0_15)⟩,
     ⟨S131072x15, extractStridedSlice S131072x15 ![0, 0]
        (Host.dotGeneral (F := Ideal) dot_S131072x64_S64x16_S131072x16_1_0_0_1_n_n none (maximumf (Host.dotGeneral (F := Ideal) dot_S131072x128_S128x64_S131072x64_1_0_0_1_n_n none (concatenate S131072x128 1 [⟨S131072x32, f0⟩, ⟨S131072x32, f1⟩, ⟨S131072x32, f2⟩, ⟨S131072x32, f3⟩] concatenates_S131072x32_S131072x32_S131072x32_S131072x32_S131072x128_d1) W1) (broadcastInDim S131072x64 ![] bcast_S_S131072x64 (constant (F := Ideal) S_ .f32 0x00000000#32))) W2)
        slices_S131072x16_S131072x15_0_0⟩]
    concatenates_S131072x1_S131072x15_S131072x16_d1

/-- The hidden layer: the one 128-term sum is the four 32-term partial sums added left to right, then clipped below
    at 0. -/
theorem hidden_apply (f0 f1 f2 f3 : FVec Ideal S131072x32 .f32) (W1 : FVec Ideal S128x64 .f32)
    (n : Fin 131072) (q : Fin 64) :
    (maximumf (Host.dotGeneral (F := Ideal) dot_S131072x128_S128x64_S131072x64_1_0_0_1_n_n none (concatenate S131072x128 1 [⟨S131072x32, f0⟩, ⟨S131072x32, f1⟩, ⟨S131072x32, f2⟩, ⟨S131072x32, f3⟩] concatenates_S131072x32_S131072x32_S131072x32_S131072x32_S131072x128_d1) W1) (broadcastInDim S131072x64 ![] bcast_S_S131072x64 (constant (F := Ideal) S_ .f32 0x00000000#32))) (ix2 n q)
      = KPlanes.hidden f0 f1 f2 f3 W1 n q := by
  refine (relu0_apply _ _ n q).trans ?_
  unfold KPlanes.hidden KPlanes.part
  refine congrArg (fun x => max x 0) ?_
  refine (dotW1_apply _ W1 n q).trans ?_
  refine (sum128_split _).trans ?_
  simp only [cat4_apply_0, cat4_apply_1, cat4_apply_2, cat4_apply_3]

/-- The second product of the hidden layer is `outRaw`. -/
theorem raw_apply (f0 f1 f2 f3 : FVec Ideal S131072x32 .f32) (W1 : FVec Ideal S128x64 .f32) (W2 : FVec Ideal S64x16 .f32)
    (n : Fin 131072) (j : Fin 16) :
    (Host.dotGeneral (F := Ideal) dot_S131072x64_S64x16_S131072x16_1_0_0_1_n_n none (maximumf (Host.dotGeneral (F := Ideal) dot_S131072x128_S128x64_S131072x64_1_0_0_1_n_n none (concatenate S131072x128 1 [⟨S131072x32, f0⟩, ⟨S131072x32, f1⟩, ⟨S131072x32, f2⟩, ⟨S131072x32, f3⟩] concatenates_S131072x32_S131072x32_S131072x32_S131072x32_S131072x128_d1) W1) (broadcastInDim S131072x64 ![] bcast_S_S131072x64 (constant (F := Ideal) S_ .f32 0x00000000#32))) W2) (ix2 n j)
      = outRaw f0 f1 f2 f3 W1 W2 n j := by
  refine (dotW2_apply _ W2 n j).trans ?_
  unfold outRaw
  exact Finset.sum_congr rfl fun q _ => congrArg (· * W2 (ix2 q j)) (hidden_apply f0 f1 f2 f3 W1 n q)

/-- Column 0 of the tail: the exponential of raw column 15. -/
theorem tailFn_col0 (f0 f1 f2 f3 : FVec Ideal S131072x32 .f32) (W1 : FVec Ideal S128x64 .f32) (W2 : FVec Ideal S64x16 .f32)
    (n : Fin 131072) :
    tailFn f0 f1 f2 f3 W1 W2 (ix2 n (0 : Fin 16)) = mlp f0 f1 f2 f3 W1 W2 (ix2 n (0 : Fin 16)) := by
  rw [mlp_col0]
  unfold tailFn
  refine (cat2_apply_zero _ _ _ n).trans ?_
  refine (hostExp_apply _ _).trans ?_
  refine congrArg Ideal.exp ?_
  refine (slice_last_apply _ _ n).trans ?_
  exact raw_apply f0 f1 f2 f3 W1 W2 n ⟨15, by decide⟩

/-- Column `j + 1` of the tail: raw column `j`. -/
theorem tailFn_colSucc (f0 f1 f2 f3 : FVec Ideal S131072x32 .f32) (W1 : FVec Ideal S128x64 .f32) (W2 : FVec Ideal S64x16 .f32)
    (n : Fin 131072) (j : Fin 15) :
    tailFn f0 f1 f2 f3 W1 W2 (ix2 n (⟨j.val + 1, by have := j.isLt; omega⟩ : Fin 16))
      = mlp f0 f1 f2 f3 W1 W2 (ix2 n (⟨j.val + 1, by have := j.isLt; omega⟩ : Fin 16)) := by
  rw [mlp_colSucc]
  unfold tailFn
  refine (cat2_apply_succ _ _ _ n j).trans ?_
  refine (slice_front_apply _ _ n j).trans ?_
  exact raw_apply f0 f1 f2 f3 W1 W2 n ⟨j.val, by have := j.isLt; omega⟩

/-- The reference's tail computes the specification `mlp`. -/
theorem tailFn_eq (f0 f1 f2 f3 : FVec Ideal S131072x32 .f32) (W1 : FVec Ideal S128x64 .f32) (W2 : FVec Ideal S64x16 .f32) :
    tailFn f0 f1 f2 f3 W1 W2 = mlp f0 f1 f2 f3 W1 W2 := by
  funext i
  obtain ⟨n, j, rfl⟩ : ∃ (n : Fin 131072) (j : Fin 16), i = ix2 n j := ⟨i 0, i 1, eq_ix2 i⟩
  obtain ⟨jv, hj⟩ := j
  cases jv with
  | zero => exact tailFn_col0 f0 f1 f2 f3 W1 W2 n
  | succ j' => exact tailFn_colSucc f0 f1 f2 f3 W1 W2 n ⟨j', by omega⟩

end Products

/-- Five array products, left to right, are the six-fold product index by index. -/
theorem mulf5_eq (a0 a1 a2 a3 a4 a5 : FVec Ideal S131072x32 .f32) :
    mulf (mulf (mulf (mulf (mulf a0 a1) a2) a3) a4) a5 = prod6 a0 a1 a2 a3 a4 a5 := by
  funext i
  rfl

end Cert.ReferenceIdeal.Tail

end
-- ==== Proof.Bridge.lean ====
/-
  The two programs' shared head, and the reference's tail, joined.

  Both programs start with the same host operations — the point coordinates re-laid as [131072, 4], and for each of the 24
  planes the bilinear interpolation of that plane at the points (floor, clip, four gathers, the weighted sum, a transpose) —
  applied to the same 28 arguments. The kernel program then enters its region with the 24 interpolated arrays; the
  reference goes on to multiply them six at a time, concatenate, and apply the two matrix products. Here: (1) the
  argument buffers are never written, so they agree throughout; (2) operation by operation the head's buffers agree (the
  congruence modules), in particular the 24 interpolated arrays; (3) the reference's products and last operations, read
  off its own equations, are the specification `Cert.KPlanes.mlp` of the four feature arrays. Every equation between a
  buffer of the one program and a buffer of the other is stated at the buffers' common type, written out.
-/
import proofs.«133805_j10187662426200_2_alg».proof.Proof.SimHd
import proofs.«133805_j10187662426200_2_alg».proof.Proof.SimB0
import proofs.«133805_j10187662426200_2_alg».proof.Proof.SimB1
import proofs.«133805_j10187662426200_2_alg».proof.Proof.SimB2
import proofs.«133805_j10187662426200_2_alg».proof.Proof.SimB3
import proofs.«133805_j10187662426200_2_alg».proof.Proof.SimB4
import proofs.«133805_j10187662426200_2_alg».proof.Proof.SimB5
import proofs.«133805_j10187662426200_2_alg».proof.Proof.SimB6
import proofs.«133805_j10187662426200_2_alg».proof.Proof.SimB7
import proofs.«133805_j10187662426200_2_alg».proof.Proof.SimB8
import proofs.«133805_j10187662426200_2_alg».proof.Proof.SimB9
import proofs.«133805_j10187662426200_2_alg».proof.Proof.SimB10
import proofs.«133805_j10187662426200_2_alg».proof.Proof.SimB11
import proofs.«133805_j10187662426200_2_alg».proof.Proof.SimB12
import proofs.«133805_j10187662426200_2_alg».proof.Proof.SimB13
import proofs.«133805_j10187662426200_2_alg».proof.Proof.SimB14
import proofs.«133805_j10187662426200_2_alg».proof.Proof.SimB15
import proofs.«133805_j10187662426200_2_alg».proof.Proof.SimB16
import proofs.«133805_j10187662426200_2_alg».proof.Proof.SimB17
import proofs.«133805_j10187662426200_2_alg».proof.Proof.SimB18
import proofs.«133805_j10187662426200_2_alg».proof.Proof.SimB19
import proofs.«133805_j10187662426200_2_alg».proof.Proof.SimB20
import proofs.«133805_j10187662426200_2_alg».proof.Proof.SimB21
import proofs.«133805_j10187662426200_2_alg».proof.Proof.SimB22
import proofs.«133805_j10187662426200_2_alg».proof.Proof.SimB23
import proofs.«133805_j10187662426200_2_alg».proof.Proof.KIStretchAll
import proofs.«133805_j10187662426200_2_alg».proof.Proof.RefRun
import proofs.«133805_j10187662426200_2_alg».proof.Proof.RefTail

set_option maxRecDepth 65536

noncomputable section

namespace Cert.Bridge

open Idealize.ShloMosaic Idealize.ShloMosaic.TcCoe Idealize.SL.Sem Idealize.ShloMosaic.StableHlo Cert.HostFold Cert.KPlanes

variable (V₁ : Valuation Cert.KernelIdeal.τ Cert.KernelIdeal.sig (Elt Ideal)) (V₂ : Valuation Cert.ReferenceIdeal.τ Cert.ReferenceIdeal.sig (Elt Ideal))

/-- The kernel program's buffers when its region is entered: the fold of its host operations over the launch contents. -/
abbrev ΦK : Valuation Cert.KernelIdeal.τ Cert.KernelIdeal.sig (Elt Ideal) := after (List.flatten Cert.KernelIdeal.Stretch.pieces) V₁
/-- The reference program's buffers at its end. -/
abbrev ΦR : Valuation Cert.ReferenceIdeal.τ Cert.ReferenceIdeal.sig (Elt Ideal) := after Cert.ReferenceIdeal.HostRun.ops V₂

theorem fixedK {s : List (HloOp Cert.KernelIdeal.τ Cert.KernelIdeal.sig (Elt Ideal))} (hs : s ∈ (Cert.KernelIdeal.Stretch.pieces : List (List (HloOp Cert.KernelIdeal.τ Cert.KernelIdeal.sig (Elt Ideal))))) :
    s.Forall fun op => ∀ b ∈ op.writes, ΦK V₁ b = op.result (ΦK V₁) b :=
  fixed_of_mem (Cert.KernelIdeal.Stretch.all_chain.fixed V₁) hs

theorem fixedR {w : List (HloOp Cert.ReferenceIdeal.τ Cert.ReferenceIdeal.sig (Elt Ideal))} (hw : w ∈ (Cert.ReferenceIdeal.Ops.pieces : List (List (HloOp Cert.ReferenceIdeal.τ Cert.ReferenceIdeal.sig (Elt Ideal))))) :
    w.Forall fun op => ∀ b ∈ op.writes, ΦR V₂ b = op.result (ΦR V₂) b :=
  Cert.ReferenceIdeal.HostRun.fixed V₂ hw

/-- The two launch contents agree on the 28 arguments. -/
structure ArgsAgree : Prop where
  a0 : @Eq ((⟨Cert.KernelIdeal.S4096x32x3, .f32⟩ : BufTy).Contents (Elt Ideal)) (V₁ (Proc.devRef .tc Cert.KernelIdeal.main_arg0)) (V₂ (Proc.devRef .tc Cert.ReferenceIdeal.main_arg0))
  a1 : @Eq ((⟨Cert.KernelIdeal.S4096, .f32⟩ : BufTy).Contents (Elt Ideal)) (V₁ (Proc.devRef .tc Cert.KernelIdeal.main_arg1)) (V₂ (Proc.devRef .tc Cert.ReferenceIdeal.main_arg1))
  a2 : @Eq ((⟨Cert.KernelIdeal.S32x64x64, .f32⟩ : BufTy).Contents (Elt Ideal)) (V₁ (Proc.devRef .tc Cert.KernelIdeal.main_arg2)) (V₂ (Proc.devRef .tc Cert.ReferenceIdeal.main_arg2))
  a3 : @Eq ((⟨Cert.KernelIdeal.S32x64x64, .f32⟩ : BufTy).Contents (Elt Ideal)) (V₁ (Proc.devRef .tc Cert.KernelIdeal.main_arg3)) (V₂ (Proc.devRef .tc Cert.ReferenceIdeal.main_arg3))
  a4 : @Eq ((⟨Cert.KernelIdeal.S32x150x64, .f32⟩ : BufTy).Contents (Elt Ideal)) (V₁ (Proc.devRef .tc Cert.KernelIdeal.main_arg4)) (V₂ (Proc.devRef .tc Cert.ReferenceIdeal.main_arg4))
  a5 : @Eq ((⟨Cert.KernelIdeal.S32x64x64, .f32⟩ : BufTy).Contents (Elt Ideal)) (V₁ (Proc.devRef .tc Cert.KernelIdeal.main_arg5)) (V₂ (Proc.devRef .tc Cert.ReferenceIdeal.main_arg5))
  a6 : @Eq ((⟨Cert.KernelIdeal.S32x150x64, .f32⟩ : BufTy).Contents (Elt Ideal)) (V₁ (Proc.devRef .tc Cert.KernelIdeal.main_arg6)) (V₂ (Proc.devRef .tc Cert.ReferenceIdeal.main_arg6))
  a7 : @Eq ((⟨Cert.KernelIdeal.S32x150x64, .f32⟩ : BufTy).Contents (Elt Ideal)) (V₁ (Proc.devRef .tc Cert.KernelIdeal.main_arg7)) (V₂ (Proc.devRef .tc Cert.ReferenceIdeal.main_arg7))
  a8 : @Eq ((⟨Cert.KernelIdeal.S32x128x128, .f32⟩ : BufTy).Contents (Elt Ideal)) (V₁ (Proc.devRef .tc Cert.KernelIdeal.main_arg8)) (V₂ (Proc.devRef .tc Cert.ReferenceIdeal.main_arg8))
  a9 : @Eq ((⟨Cert.KernelIdeal.S32x128x128, .f32⟩ : BufTy).Contents (Elt Ideal)) (V₁ (Proc.devRef .tc Cert.KernelIdeal.main_arg9)) (V₂ (Proc.devRef .tc Cert.ReferenceIdeal.main_arg9))
  a10 : @Eq ((⟨Cert.KernelIdeal.S32x150x128, .f32⟩ : BufTy).Contents (Elt Ideal)) (V₁ (Proc.devRef .tc Cert.KernelIdeal.main_arg10)) (V₂ (Proc.devRef .tc Cert.ReferenceIdeal.main_arg10))
  a11 : @Eq ((⟨Cert.KernelIdeal.S32x128x128, .f32⟩ : BufTy).Contents (Elt Ideal)) (V₁ (Proc.devRef .tc Cert.KernelIdeal.main_arg11)) (V₂ (Proc.devRef .tc Cert.ReferenceIdeal.main_arg11))
  a12 : @Eq ((⟨Cert.KernelIdeal.S32x150x128, .f32⟩ : BufTy).Contents (Elt Ideal)) (V₁ (Proc.devRef .tc Cert.KernelIdeal.main_arg12)) (V₂ (Proc.devRef .tc Cert.ReferenceIdeal.main_arg12))
  a13 : @Eq ((⟨Cert.KernelIdeal.S32x150x128, .f32⟩ : BufTy).Contents (Elt Ideal)) (V₁ (Proc.devRef .tc Cert.KernelIdeal.main_arg13)) (V₂ (Proc.devRef .tc Cert.ReferenceIdeal.main_arg13))
  a14 : @Eq ((⟨Cert.KernelIdeal.S32x256x256, .f32⟩ : BufTy).Contents (Elt Ideal)) (V₁ (Proc.devRef .tc Cert.KernelIdeal.main_arg14)) (V₂ (Proc.devRef .tc Cert.ReferenceIdeal.main_arg14))
  a15 : @Eq ((⟨Cert.KernelIdeal.S32x256x256, .f32⟩ : BufTy).Contents (Elt Ideal)) (V₁ (Proc.devRef .tc Cert.KernelIdeal.main_arg15)) (V₂ (Proc.devRef .tc Cert.ReferenceIdeal.main_arg15))
  a16 : @Eq ((⟨Cert.KernelIdeal.S32x150x256, .f32⟩ : BufTy).Contents (Elt Ideal)) (V₁ (Proc.devRef .tc Cert.KernelIdeal.main_arg16)) (V₂ (Proc.devRef .tc Cert.ReferenceIdeal.main_arg16))
  a17 : @Eq ((⟨Cert.KernelIdeal.S32x256x256, .f32⟩ : BufTy).Contents (Elt Ideal)) (V₁ (Proc.devRef .tc Cert.KernelIdeal.main_arg17)) (V₂ (Proc.devRef .tc Cert.ReferenceIdeal.main_arg17))
  a18 : @Eq ((⟨Cert.KernelIdeal.S32x150x256, .f32⟩ : BufTy).Contents (Elt Ideal)) (V₁ (Proc.devRef .tc Cert.KernelIdeal.main_arg18)) (V₂ (Proc.devRef .tc Cert.ReferenceIdeal.main_arg18))
  a19 : @Eq ((⟨Cert.KernelIdeal.S32x150x256, .f32⟩ : BufTy).Contents (Elt Ideal)) (V₁ (Proc.devRef .tc Cert.KernelIdeal.main_arg19)) (V₂ (Proc.devRef .tc Cert.ReferenceIdeal.main_arg19))
  a20 : @Eq ((⟨Cert.KernelIdeal.S32x512x512, .f32⟩ : BufTy).Contents (Elt Ideal)) (V₁ (Proc.devRef .tc Cert.KernelIdeal.main_arg20)) (V₂ (Proc.devRef .tc Cert.ReferenceIdeal.main_arg20))
  a21 : @Eq ((⟨Cert.KernelIdeal.S32x512x512, .f32⟩ : BufTy).Contents (Elt Ideal)) (V₁ (Proc.devRef .tc Cert.KernelIdeal.main_arg21)) (V₂ (Proc.devRef .tc Cert.ReferenceIdeal.main_arg21))
  a22 : @Eq ((⟨Cert.KernelIdeal.S32x150x512, .f32⟩ : BufTy).Contents (Elt Ideal)) (V₁ (Proc.devRef .tc Cert.KernelIdeal.main_arg22)) (V₂ (Proc.devRef .tc Cert.ReferenceIdeal.main_arg22))
  a23 : @Eq ((⟨Cert.KernelIdeal.S32x512x512, .f32⟩ : BufTy).Contents (Elt Ideal)) (V₁ (Proc.devRef .tc Cert.KernelIdeal.main_arg23)) (V₂ (Proc.devRef .tc Cert.ReferenceIdeal.main_arg23))
  a24 : @Eq ((⟨Cert.KernelIdeal.S32x150x512, .f32⟩ : BufTy).Contents (Elt Ideal)) (V₁ (Proc.devRef .tc Cert.KernelIdeal.main_arg24)) (V₂ (Proc.devRef .tc Cert.ReferenceIdeal.main_arg24))
  a25 : @Eq ((⟨Cert.KernelIdeal.S32x150x512, .f32⟩ : BufTy).Contents (Elt Ideal)) (V₁ (Proc.devRef .tc Cert.KernelIdeal.main_arg25)) (V₂ (Proc.devRef .tc Cert.ReferenceIdeal.main_arg25))
  a26 : @Eq ((⟨Cert.KernelIdeal.S128x64, .f32⟩ : BufTy).Contents (Elt Ideal)) (V₁ (Proc.devRef .tc Cert.KernelIdeal.main_arg26)) (V₂ (Proc.devRef .tc Cert.ReferenceIdeal.main_arg26))
  a27 : @Eq ((⟨Cert.KernelIdeal.S64x16, .f32⟩ : BufTy).Contents (Elt Ideal)) (V₁ (Proc.devRef .tc Cert.KernelIdeal.main_arg27)) (V₂ (Proc.devRef .tc Cert.ReferenceIdeal.main_arg27))

variable {V₁ V₂}

/-! ## (1) The arguments are never written -/

theorem arg0 (h : ArgsAgree V₁ V₂) : @Eq ((⟨Cert.KernelIdeal.S4096x32x3, .f32⟩ : BufTy).Contents (Elt Ideal)) (ΦK V₁ (Proc.devRef .tc Cert.KernelIdeal.main_arg0)) (ΦR V₂ (Proc.devRef .tc Cert.ReferenceIdeal.main_arg0)) :=
  @Eq.trans ((⟨Cert.KernelIdeal.S4096x32x3, .f32⟩ : BufTy).Contents (Elt Ideal)) _ _ _ (after_keeps _ V₁ Cert.KernelIdeal.Stretch.all_chain.from Cert.KernelIdeal.main_arg0 (by decide))
    (@Eq.trans ((⟨Cert.KernelIdeal.S4096x32x3, .f32⟩ : BufTy).Contents (Elt Ideal)) _ _ _ h.a0 (Cert.ReferenceIdeal.HostRun.arg_kept V₂ Cert.ReferenceIdeal.main_arg0 (by decide)).symm)
theorem arg1 (h : ArgsAgree V₁ V₂) : @Eq ((⟨Cert.KernelIdeal.S4096, .f32⟩ : BufTy).Contents (Elt Ideal)) (ΦK V₁ (Proc.devRef .tc Cert.KernelIdeal.main_arg1)) (ΦR V₂ (Proc.devRef .tc Cert.ReferenceIdeal.main_arg1)) :=
  @Eq.trans ((⟨Cert.KernelIdeal.S4096, .f32⟩ : BufTy).Contents (Elt Ideal)) _ _ _ (after_keeps _ V₁ Cert.KernelIdeal.Stretch.all_chain.from Cert.KernelIdeal.main_arg1 (by decide))
    (@Eq.trans ((⟨Cert.KernelIdeal.S4096, .f32⟩ : BufTy).Contents (Elt Ideal)) _ _ _ h.a1 (Cert.ReferenceIdeal.HostRun.arg_kept V₂ Cert.ReferenceIdeal.main_arg1 (by decide)).symm)
theorem arg2 (h : ArgsAgree V₁ V₂) : @Eq ((⟨Cert.KernelIdeal.S32x64x64, .f32⟩ : BufTy).Contents (Elt Ideal)) (ΦK V₁ (Proc.devRef .tc Cert.KernelIdeal.main_arg2)) (ΦR V₂ (Proc.devRef .tc Cert.ReferenceIdeal.main_arg2)) :=
  @Eq.trans ((⟨Cert.KernelIdeal.S32x64x64, .f32⟩ : BufTy).Contents (Elt Ideal)) _ _ _ (after_keeps _ V₁ Cert.KernelIdeal.Stretch.all_chain.from Cert.KernelIdeal.main_arg2 (by decide))
    (@Eq.trans ((⟨Cert.KernelIdeal.S32x64x64, .f32⟩ : BufTy).Contents (Elt Ideal)) _ _ _ h.a2 (Cert.ReferenceIdeal.HostRun.arg_kept V₂ Cert.ReferenceIdeal.main_arg2 (by decide)).symm)
theorem arg3 (h : ArgsAgree V₁ V₂) : @Eq ((⟨Cert.KernelIdeal.S32x64x64, .f32⟩ : BufTy).Contents (Elt Ideal)) (ΦK V₁ (Proc.devRef .tc Cert.KernelIdeal.main_arg3)) (ΦR V₂ (Proc.devRef .tc Cert.ReferenceIdeal.main_arg3)) :=
  @Eq.trans ((⟨Cert.KernelIdeal.S32x64x64, .f32⟩ : BufTy).Contents (Elt Ideal)) _ _ _ (after_keeps _ V₁ Cert.KernelIdeal.Stretch.all_chain.from Cert.KernelIdeal.main_arg3 (by decide))
    (@Eq.trans ((⟨Cert.KernelIdeal.S32x64x64, .f32⟩ : BufTy).Contents (Elt Ideal)) _ _ _ h.a3 (Cert.ReferenceIdeal.HostRun.arg_kept V₂ Cert.ReferenceIdeal.main_arg3 (by decide)).symm)
theorem arg4 (h : ArgsAgree V₁ V₂) : @Eq ((⟨Cert.KernelIdeal.S32x150x64, .f32⟩ : BufTy).Contents (Elt Ideal)) (ΦK V₁ (Proc.devRef .tc Cert.KernelIdeal.main_arg4)) (ΦR V₂ (Proc.devRef .tc Cert.ReferenceIdeal.main_arg4)) :=
  @Eq.trans ((⟨Cert.KernelIdeal.S32x150x64, .f32⟩ : BufTy).Contents (Elt Ideal)) _ _ _ (after_keeps _ V₁ Cert.KernelIdeal.Stretch.all_chain.from Cert.KernelIdeal.main_arg4 (by decide))
    (@Eq.trans ((⟨Cert.KernelIdeal.S32x150x64, .f32⟩ : BufTy).Contents (Elt Ideal)) _ _ _ h.a4 (Cert.ReferenceIdeal.HostRun.arg_kept V₂ Cert.ReferenceIdeal.main_arg4 (by decide)).symm)
theorem arg5 (h : ArgsAgree V₁ V₂) : @Eq ((⟨Cert.KernelIdeal.S32x64x64, .f32⟩ : BufTy).Contents (Elt Ideal)) (ΦK V₁ (Proc.devRef .tc Cert.KernelIdeal.main_arg5)) (ΦR V₂ (Proc.devRef .tc Cert.ReferenceIdeal.main_arg5)) :=
  @Eq.trans ((⟨Cert.KernelIdeal.S32x64x64, .f32⟩ : BufTy).Contents (Elt Ideal)) _ _ _ (after_keeps _ V₁ Cert.KernelIdeal.Stretch.all_chain.from Cert.KernelIdeal.main_arg5 (by decide))
    (@Eq.trans ((⟨Cert.KernelIdeal.S32x64x64, .f32⟩ : BufTy).Contents (Elt Ideal)) _ _ _ h.a5 (Cert.ReferenceIdeal.HostRun.arg_kept V₂ Cert.ReferenceIdeal.main_arg5 (by decide)).symm)
theorem arg6 (h : ArgsAgree V₁ V₂) : @Eq ((⟨Cert.KernelIdeal.S32x150x64, .f32⟩ : BufTy).Contents (Elt Ideal)) (ΦK V₁ (Proc.devRef .tc Cert.KernelIdeal.main_arg6)) (ΦR V₂ (Proc.devRef .tc Cert.ReferenceIdeal.main_arg6)) :=
  @Eq.trans ((⟨Cert.KernelIdeal.S32x150x64, .f32⟩ : BufTy).Contents (Elt Ideal)) _ _ _ (after_keeps _ V₁ Cert.KernelIdeal.Stretch.all_chain.from Cert.KernelIdeal.main_arg6 (by decide))
    (@Eq.trans ((⟨Cert.KernelIdeal.S32x150x64, .f32⟩ : BufTy).Contents (Elt Ideal)) _ _ _ h.a6 (Cert.ReferenceIdeal.HostRun.arg_kept V₂ Cert.ReferenceIdeal.main_arg6 (by decide)).symm)
theorem arg7 (h : ArgsAgree V₁ V₂) : @Eq ((⟨Cert.KernelIdeal.S32x150x64, .f32⟩ : BufTy).Contents (Elt Ideal)) (ΦK V₁ (Proc.devRef .tc Cert.KernelIdeal.main_arg7)) (ΦR V₂ (Proc.devRef .tc Cert.ReferenceIdeal.main_arg7)) :=
  @Eq.trans ((⟨Cert.KernelIdeal.S32x150x64, .f32⟩ : BufTy).Contents (Elt Ideal)) _ _ _ (after_keeps _ V₁ Cert.KernelIdeal.Stretch.all_chain.from Cert.KernelIdeal.main_arg7 (by decide))
    (@Eq.trans ((⟨Cert.KernelIdeal.S32x150x64, .f32⟩ : BufTy).Contents (Elt Ideal)) _ _ _ h.a7 (Cert.ReferenceIdeal.HostRun.arg_kept V₂ Cert.ReferenceIdeal.main_arg7 (by decide)).symm)
theorem arg8 (h : ArgsAgree V₁ V₂) : @Eq ((⟨Cert.KernelIdeal.S32x128x128, .f32⟩ : BufTy).Contents (Elt Ideal)) (ΦK V₁ (Proc.devRef .tc Cert.KernelIdeal.main_arg8)) (ΦR V₂ (Proc.devRef .tc Cert.ReferenceIdeal.main_arg8)) :=
  @Eq.trans ((⟨Cert.KernelIdeal.S32x128x128, .f32⟩ : BufTy).Contents (Elt Ideal)) _ _ _ (after_keeps _ V₁ Cert.KernelIdeal.Stretch.all_chain.from Cert.KernelIdeal.main_arg8 (by decide))
    (@Eq.trans ((⟨Cert.KernelIdeal.S32x128x128, .f32⟩ : BufTy).Contents (Elt Ideal)) _ _ _ h.a8 (Cert.ReferenceIdeal.HostRun.arg_kept V₂ Cert.ReferenceIdeal.main_arg8 (by decide)).symm)
theorem arg9 (h : ArgsAgree V₁ V₂) : @Eq ((⟨Cert.KernelIdeal.S32x128x128, .f32⟩ : BufTy).Contents (Elt Ideal)) (ΦK V₁ (Proc.devRef .tc Cert.KernelIdeal.main_arg9)) (ΦR V₂ (Proc.devRef .tc Cert.ReferenceIdeal.main_arg9)) :=
  @Eq.trans ((⟨Cert.KernelIdeal.S32x128x128, .f32⟩ : BufTy).Contents (Elt Ideal)) _ _ _ (after_keeps _ V₁ Cert.KernelIdeal.Stretch.all_chain.from Cert.KernelIdeal.main_arg9 (by decide))
    (@Eq.trans ((⟨Cert.KernelIdeal.S32x128x128, .f32⟩ : BufTy).Contents (Elt Ideal)) _ _ _ h.a9 (Cert.ReferenceIdeal.HostRun.arg_kept V₂ Cert.ReferenceIdeal.main_arg9 (by decide)).symm)
theorem arg10 (h : ArgsAgree V₁ V₂) : @Eq ((⟨Cert.KernelIdeal.S32x150x128, .f32⟩ : BufTy).Contents (Elt Ideal)) (ΦK V₁ (Proc.devRef .tc Cert.KernelIdeal.main_arg10)) (ΦR V₂ (Proc.devRef .tc Cert.ReferenceIdeal.main_arg10)) :=
  @Eq.trans ((⟨Cert.KernelIdeal.S32x150x128, .f32⟩ : BufTy).Contents (Elt Ideal)) _ _ _ (after_keeps _ V₁ Cert.KernelIdeal.Stretch.all_chain.from Cert.KernelIdeal.main_arg10 (by decide))
    (@Eq.trans ((⟨Cert.KernelIdeal.S32x150x128, .f32⟩ : BufTy).Contents (Elt Ideal)) _ _ _ h.a10 (Cert.ReferenceIdeal.HostRun.arg_kept V₂ Cert.ReferenceIdeal.main_arg10 (by decide)).symm)
theorem arg11 (h : ArgsAgree V₁ V₂) : @Eq ((⟨Cert.KernelIdeal.S32x128x128, .f32⟩ : BufTy).Contents (Elt Ideal)) (ΦK V₁ (Proc.devRef .tc Cert.KernelIdeal.main_arg11)) (ΦR V₂ (Proc.devRef .tc Cert.ReferenceIdeal.main_arg11)) :=
  @Eq.trans ((⟨Cert.KernelIdeal.S32x128x128, .f32⟩ : BufTy).Contents (Elt Ideal)) _ _ _ (after_keeps _ V₁ Cert.KernelIdeal.Stretch.all_chain.from Cert.KernelIdeal.main_arg11 (by decide))
    (@Eq.trans ((⟨Cert.KernelIdeal.S32x128x128, .f32⟩ : BufTy).Contents (Elt Ideal)) _ _ _ h.a11 (Cert.ReferenceIdeal.HostRun.arg_kept V₂ Cert.ReferenceIdeal.main_arg11 (by decide)).symm)
theorem arg12 (h : ArgsAgree V₁ V₂) : @Eq ((⟨Cert.KernelIdeal.S32x150x128, .f32⟩ : BufTy).Contents (Elt Ideal)) (ΦK V₁ (Proc.devRef .tc Cert.KernelIdeal.main_arg12)) (ΦR V₂ (Proc.devRef .tc Cert.ReferenceIdeal.main_arg12)) :=
  @Eq.trans ((⟨Cert.KernelIdeal.S32x150x128, .f32⟩ : BufTy).Contents (Elt Ideal)) _ _ _ (after_keeps _ V₁ Cert.KernelIdeal.Stretch.all_chain.from Cert.KernelIdeal.main_arg12 (by decide))
    (@Eq.trans ((⟨Cert.KernelIdeal.S32x150x128, .f32⟩ : BufTy).Contents (Elt Ideal)) _ _ _ h.a12 (Cert.ReferenceIdeal.HostRun.arg_kept V₂ Cert.ReferenceIdeal.main_arg12 (by decide)).symm)
theorem arg13 (h : ArgsAgree V₁ V₂) : @Eq ((⟨Cert.KernelIdeal.S32x150x128, .f32⟩ : BufTy).Contents (Elt Ideal)) (ΦK V₁ (Proc.devRef .tc Cert.KernelIdeal.main_arg13)) (ΦR V₂ (Proc.devRef .tc Cert.ReferenceIdeal.main_arg13)) :=
  @Eq.trans ((⟨Cert.KernelIdeal.S32x150x128, .f32⟩ : BufTy).Contents (Elt Ideal)) _ _ _ (after_keeps _ V₁ Cert.KernelIdeal.Stretch.all_chain.from Cert.KernelIdeal.main_arg13 (by decide))
    (@Eq.trans ((⟨Cert.KernelIdeal.S32x150x128, .f32⟩ : BufTy).Contents (Elt Ideal)) _ _ _ h.a13 (Cert.ReferenceIdeal.HostRun.arg_kept V₂ Cert.ReferenceIdeal.main_arg13 (by decide)).symm)
theorem arg14 (h : ArgsAgree V₁ V₂) : @Eq ((⟨Cert.KernelIdeal.S32x256x256, .f32⟩ : BufTy).Contents (Elt Ideal)) (ΦK V₁ (Proc.devRef .tc Cert.KernelIdeal.main_arg14)) (ΦR V₂ (Proc.devRef .tc Cert.ReferenceIdeal.main_arg14)) :=
  @Eq.trans ((⟨Cert.KernelIdeal.S32x256x256, .f32⟩ : BufTy).Contents (Elt Ideal)) _ _ _ (after_keeps _ V₁ Cert.KernelIdeal.Stretch.all_chain.from Cert.KernelIdeal.main_arg14 (by decide))
    (@Eq.trans ((⟨Cert.KernelIdeal.S32x256x256, .f32⟩ : BufTy).Contents (Elt Ideal)) _ _ _ h.a14 (Cert.ReferenceIdeal.HostRun.arg_kept V₂ Cert.ReferenceIdeal.main_arg14 (by decide)).symm)
theorem arg15 (h : ArgsAgree V₁ V₂) : @Eq ((⟨Cert.KernelIdeal.S32x256x256, .f32⟩ : BufTy).Contents (Elt Ideal)) (ΦK V₁ (Proc.devRef .tc Cert.KernelIdeal.main_arg15)) (ΦR V₂ (Proc.devRef .tc Cert.ReferenceIdeal.main_arg15)) :=
  @Eq.trans ((⟨Cert.KernelIdeal.S32x256x256, .f32⟩ : BufTy).Contents (Elt Ideal)) _ _ _ (after_keeps _ V₁ Cert.KernelIdeal.Stretch.all_chain.from Cert.KernelIdeal.main_arg15 (by decide))
    (@Eq.trans ((⟨Cert.KernelIdeal.S32x256x256, .f32⟩ : BufTy).Contents (Elt Ideal)) _ _ _ h.a15 (Cert.ReferenceIdeal.HostRun.arg_kept V₂ Cert.ReferenceIdeal.main_arg15 (by decide)).symm)
theorem arg16 (h : ArgsAgree V₁ V₂) : @Eq ((⟨Cert.KernelIdeal.S32x150x256, .f32⟩ : BufTy).Contents (Elt Ideal)) (ΦK V₁ (Proc.devRef .tc Cert.KernelIdeal.main_arg16)) (ΦR V₂ (Proc.devRef .tc Cert.ReferenceIdeal.main_arg16)) :=
  @Eq.trans ((⟨Cert.KernelIdeal.S32x150x256, .f32⟩ : BufTy).Contents (Elt Ideal)) _ _ _ (after_keeps _ V₁ Cert.KernelIdeal.Stretch.all_chain.from Cert.KernelIdeal.main_arg16 (by decide))
    (@Eq.trans ((⟨Cert.KernelIdeal.S32x150x256, .f32⟩ : BufTy).Contents (Elt Ideal)) _ _ _ h.a16 (Cert.ReferenceIdeal.HostRun.arg_kept V₂ Cert.ReferenceIdeal.main_arg16 (by decide)).symm)
theorem arg17 (h : ArgsAgree V₁ V₂) : @Eq ((⟨Cert.KernelIdeal.S32x256x256, .f32⟩ : BufTy).Contents (Elt Ideal)) (ΦK V₁ (Proc.devRef .tc Cert.KernelIdeal.main_arg17)) (ΦR V₂ (Proc.devRef .tc Cert.ReferenceIdeal.main_arg17)) :=
  @Eq.trans ((⟨Cert.KernelIdeal.S32x256x256, .f32⟩ : BufTy).Contents (Elt Ideal)) _ _ _ (after_keeps _ V₁ Cert.KernelIdeal.Stretch.all_chain.from Cert.KernelIdeal.main_arg17 (by decide))
    (@Eq.trans ((⟨Cert.KernelIdeal.S32x256x256, .f32⟩ : BufTy).Contents (Elt Ideal)) _ _ _ h.a17 (Cert.ReferenceIdeal.HostRun.arg_kept V₂ Cert.ReferenceIdeal.main_arg17 (by decide)).symm)
theorem arg18 (h : ArgsAgree V₁ V₂) : @Eq ((⟨Cert.KernelIdeal.S32x150x256, .f32⟩ : BufTy).Contents (Elt Ideal)) (ΦK V₁ (Proc.devRef .tc Cert.KernelIdeal.main_arg18)) (ΦR V₂ (Proc.devRef .tc Cert.ReferenceIdeal.main_arg18)) :=
  @Eq.trans ((⟨Cert.KernelIdeal.S32x150x256, .f32⟩ : BufTy).Contents (Elt Ideal)) _ _ _ (after_keeps _ V₁ Cert.KernelIdeal.Stretch.all_chain.from Cert.KernelIdeal.main_arg18 (by decide))
    (@Eq.trans ((⟨Cert.KernelIdeal.S32x150x256, .f32⟩ : BufTy).Contents (Elt Ideal)) _ _ _ h.a18 (Cert.ReferenceIdeal.HostRun.arg_kept V₂ Cert.ReferenceIdeal.main_arg18 (by decide)).symm)
theorem arg19 (h : ArgsAgree V₁ V₂) : @Eq ((⟨Cert.KernelIdeal.S32x150x256, .f32⟩ : BufTy).Contents (Elt Ideal)) (ΦK V₁ (Proc.devRef .tc Cert.KernelIdeal.main_arg19)) (ΦR V₂ (Proc.devRef .tc Cert.ReferenceIdeal.main_arg19)) :=
  @Eq.trans ((⟨Cert.KernelIdeal.S32x150x256, .f32⟩ : BufTy).Contents (Elt Ideal)) _ _ _ (after_keeps _ V₁ Cert.KernelIdeal.Stretch.all_chain.from Cert.KernelIdeal.main_arg19 (by decide))
    (@Eq.trans ((⟨Cert.KernelIdeal.S32x150x256, .f32⟩ : BufTy).Contents (Elt Ideal)) _ _ _ h.a19 (Cert.ReferenceIdeal.HostRun.arg_kept V₂ Cert.ReferenceIdeal.main_arg19 (by decide)).symm)
theorem arg20 (h : ArgsAgree V₁ V₂) : @Eq ((⟨Cert.KernelIdeal.S32x512x512, .f32⟩ : BufTy).Contents (Elt Ideal)) (ΦK V₁ (Proc.devRef .tc Cert.KernelIdeal.main_arg20)) (ΦR V₂ (Proc.devRef .tc Cert.ReferenceIdeal.main_arg20)) :=
  @Eq.trans ((⟨Cert.KernelIdeal.S32x512x512, .f32⟩ : BufTy).Contents (Elt Ideal)) _ _ _ (after_keeps _ V₁ Cert.KernelIdeal.Stretch.all_chain.from Cert.KernelIdeal.main_arg20 (by decide))
    (@Eq.trans ((⟨Cert.KernelIdeal.S32x512x512, .f32⟩ : BufTy).Contents (Elt Ideal)) _ _ _ h.a20 (Cert.ReferenceIdeal.HostRun.arg_kept V₂ Cert.ReferenceIdeal.main_arg20 (by decide)).symm)
theorem arg21 (h : ArgsAgree V₁ V₂) : @Eq ((⟨Cert.KernelIdeal.S32x512x512, .f32⟩ : BufTy).Contents (Elt Ideal)) (ΦK V₁ (Proc.devRef .tc Cert.KernelIdeal.main_arg21)) (ΦR V₂ (Proc.devRef .tc Cert.ReferenceIdeal.main_arg21)) :=
  @Eq.trans ((⟨Cert.KernelIdeal.S32x512x512, .f32⟩ : BufTy).Contents (Elt Ideal)) _ _ _ (after_keeps _ V₁ Cert.KernelIdeal.Stretch.all_chain.from Cert.KernelIdeal.main_arg21 (by decide))
    (@Eq.trans ((⟨Cert.KernelIdeal.S32x512x512, .f32⟩ : BufTy).Contents (Elt Ideal)) _ _ _ h.a21 (Cert.ReferenceIdeal.HostRun.arg_kept V₂ Cert.ReferenceIdeal.main_arg21 (by decide)).symm)
theorem arg22 (h : ArgsAgree V₁ V₂) : @Eq ((⟨Cert.KernelIdeal.S32x150x512, .f32⟩ : BufTy).Contents (Elt Ideal)) (ΦK V₁ (Proc.devRef .tc Cert.KernelIdeal.main_arg22)) (ΦR V₂ (Proc.devRef .tc Cert.ReferenceIdeal.main_arg22)) :=
  @Eq.trans ((⟨Cert.KernelIdeal.S32x150x512, .f32⟩ : BufTy).Contents (Elt Ideal)) _ _ _ (after_keeps _ V₁ Cert.KernelIdeal.Stretch.all_chain.from Cert.KernelIdeal.main_arg22 (by decide))
    (@Eq.trans ((⟨Cert.KernelIdeal.S32x150x512, .f32⟩ : BufTy).Contents (Elt Ideal)) _ _ _ h.a22 (Cert.ReferenceIdeal.HostRun.arg_kept V₂ Cert.ReferenceIdeal.main_arg22 (by decide)).symm)
theorem arg23 (h : ArgsAgree V₁ V₂) : @Eq ((⟨Cert.KernelIdeal.S32x512x512, .f32⟩ : BufTy).Contents (Elt Ideal)) (ΦK V₁ (Proc.devRef .tc Cert.KernelIdeal.main_arg23)) (ΦR V₂ (Proc.devRef .tc Cert.ReferenceIdeal.main_arg23)) :=
  @Eq.trans ((⟨Cert.KernelIdeal.S32x512x512, .f32⟩ : BufTy).Contents (Elt Ideal)) _ _ _ (after_keeps _ V₁ Cert.KernelIdeal.Stretch.all_chain.from Cert.KernelIdeal.main_arg23 (by decide))
    (@Eq.trans ((⟨Cert.KernelIdeal.S32x512x512, .f32⟩ : BufTy).Contents (Elt Ideal)) _ _ _ h.a23 (Cert.ReferenceIdeal.HostRun.arg_kept V₂ Cert.ReferenceIdeal.main_arg23 (by decide)).symm)
theorem arg24 (h : ArgsAgree V₁ V₂) : @Eq ((⟨Cert.KernelIdeal.S32x150x512, .f32⟩ : BufTy).Contents (Elt Ideal)) (ΦK V₁ (Proc.devRef .tc Cert.KernelIdeal.main_arg24)) (ΦR V₂ (Proc.devRef .tc Cert.ReferenceIdeal.main_arg24)) :=
  @Eq.trans ((⟨Cert.KernelIdeal.S32x150x512, .f32⟩ : BufTy).Contents (Elt Ideal)) _ _ _ (after_keeps _ V₁ Cert.KernelIdeal.Stretch.all_chain.from Cert.KernelIdeal.main_arg24 (by decide))
    (@Eq.trans ((⟨Cert.KernelIdeal.S32x150x512, .f32⟩ : BufTy).Contents (Elt Ideal)) _ _ _ h.a24 (Cert.ReferenceIdeal.HostRun.arg_kept V₂ Cert.ReferenceIdeal.main_arg24 (by decide)).symm)
theorem arg25 (h : ArgsAgree V₁ V₂) : @Eq ((⟨Cert.KernelIdeal.S32x150x512, .f32⟩ : BufTy).Contents (Elt Ideal)) (ΦK V₁ (Proc.devRef .tc Cert.KernelIdeal.main_arg25)) (ΦR V₂ (Proc.devRef .tc Cert.ReferenceIdeal.main_arg25)) :=
  @Eq.trans ((⟨Cert.KernelIdeal.S32x150x512, .f32⟩ : BufTy).Contents (Elt Ideal)) _ _ _ (after_keeps _ V₁ Cert.KernelIdeal.Stretch.all_chain.from Cert.KernelIdeal.main_arg25 (by decide))
    (@Eq.trans ((⟨Cert.KernelIdeal.S32x150x512, .f32⟩ : BufTy).Contents (Elt Ideal)) _ _ _ h.a25 (Cert.ReferenceIdeal.HostRun.arg_kept V₂ Cert.ReferenceIdeal.main_arg25 (by decide)).symm)
theorem arg26 (h : ArgsAgree V₁ V₂) : @Eq ((⟨Cert.KernelIdeal.S128x64, .f32⟩ : BufTy).Contents (Elt Ideal)) (ΦK V₁ (Proc.devRef .tc Cert.KernelIdeal.main_arg26)) (ΦR V₂ (Proc.devRef .tc Cert.ReferenceIdeal.main_arg26)) :=
  @Eq.trans ((⟨Cert.KernelIdeal.S128x64, .f32⟩ : BufTy).Contents (Elt Ideal)) _ _ _ (after_keeps _ V₁ Cert.KernelIdeal.Stretch.all_chain.from Cert.KernelIdeal.main_arg26 (by decide))
    (@Eq.trans ((⟨Cert.KernelIdeal.S128x64, .f32⟩ : BufTy).Contents (Elt Ideal)) _ _ _ h.a26 (Cert.ReferenceIdeal.HostRun.arg_kept V₂ Cert.ReferenceIdeal.main_arg26 (by decide)).symm)
theorem arg27 (h : ArgsAgree V₁ V₂) : @Eq ((⟨Cert.KernelIdeal.S64x16, .f32⟩ : BufTy).Contents (Elt Ideal)) (ΦK V₁ (Proc.devRef .tc Cert.KernelIdeal.main_arg27)) (ΦR V₂ (Proc.devRef .tc Cert.ReferenceIdeal.main_arg27)) :=
  @Eq.trans ((⟨Cert.KernelIdeal.S64x16, .f32⟩ : BufTy).Contents (Elt Ideal)) _ _ _ (after_keeps _ V₁ Cert.KernelIdeal.Stretch.all_chain.from Cert.KernelIdeal.main_arg27 (by decide))
    (@Eq.trans ((⟨Cert.KernelIdeal.S64x16, .f32⟩ : BufTy).Contents (Elt Ideal)) _ _ _ h.a27 (Cert.ReferenceIdeal.HostRun.arg_kept V₂ Cert.ReferenceIdeal.main_arg27 (by decide)).symm)

/-! ## (2) The head, operation by operation -/

/-- The re-laid coordinates and the 24 column-pair index constants agree. -/
theorem head (h : ArgsAgree V₁ V₂) :
    @Eq ((⟨Cert.KernelIdeal.S131072x4, .f32⟩ : BufTy).Contents (Elt Ideal)) (ΦK V₁ (Proc.devRef .tc Cert.KernelIdeal.main_v8)) (ΦR V₂ (Proc.devRef .tc Cert.ReferenceIdeal.main_v8))
    ∧ @Eq ((⟨Cert.KernelIdeal.S2, .i32⟩ : BufTy).Contents (Elt Ideal)) (ΦK V₁ (Proc.devRef .tc Cert.KernelIdeal.main_c)) (ΦR V₂ (Proc.devRef .tc Cert.ReferenceIdeal.main_c))
    ∧ @Eq ((⟨Cert.KernelIdeal.S2, .i32⟩ : BufTy).Contents (Elt Ideal)) (ΦK V₁ (Proc.devRef .tc Cert.KernelIdeal.main_c_0)) (ΦR V₂ (Proc.devRef .tc Cert.ReferenceIdeal.main_c_0))
    ∧ @Eq ((⟨Cert.KernelIdeal.S2, .i32⟩ : BufTy).Contents (Elt Ideal)) (ΦK V₁ (Proc.devRef .tc Cert.KernelIdeal.main_c_1)) (ΦR V₂ (Proc.devRef .tc Cert.ReferenceIdeal.main_c_1))
    ∧ @Eq ((⟨Cert.KernelIdeal.S2, .i32⟩ : BufTy).Contents (Elt Ideal)) (ΦK V₁ (Proc.devRef .tc Cert.KernelIdeal.main_c_2)) (ΦR V₂ (Proc.devRef .tc Cert.ReferenceIdeal.main_c_2))
    ∧ @Eq ((⟨Cert.KernelIdeal.S2, .i32⟩ : BufTy).Contents (Elt Ideal)) (ΦK V₁ (Proc.devRef .tc Cert.KernelIdeal.main_c_3)) (ΦR V₂ (Proc.devRef .tc Cert.ReferenceIdeal.main_c_3))
    ∧ @Eq ((⟨Cert.KernelIdeal.S2, .i32⟩ : BufTy).Contents (Elt Ideal)) (ΦK V₁ (Proc.devRef .tc Cert.KernelIdeal.main_c_4)) (ΦR V₂ (Proc.devRef .tc Cert.ReferenceIdeal.main_c_4))
    ∧ @Eq ((⟨Cert.KernelIdeal.S2, .i32⟩ : BufTy).Contents (Elt Ideal)) (ΦK V₁ (Proc.devRef .tc Cert.KernelIdeal.main_c_5)) (ΦR V₂ (Proc.devRef .tc Cert.ReferenceIdeal.main_c_5))
    ∧ @Eq ((⟨Cert.KernelIdeal.S2, .i32⟩ : BufTy).Contents (Elt Ideal)) (ΦK V₁ (Proc.devRef .tc Cert.KernelIdeal.main_c_6)) (ΦR V₂ (Proc.devRef .tc Cert.ReferenceIdeal.main_c_6))
    ∧ @Eq ((⟨Cert.KernelIdeal.S2, .i32⟩ : BufTy).Contents (Elt Ideal)) (ΦK V₁ (Proc.devRef .tc Cert.KernelIdeal.main_c_7)) (ΦR V₂ (Proc.devRef .tc Cert.ReferenceIdeal.main_c_7))
    ∧ @Eq ((⟨Cert.KernelIdeal.S2, .i32⟩ : BufTy).Contents (Elt Ideal)) (ΦK V₁ (Proc.devRef .tc Cert.KernelIdeal.main_c_8)) (ΦR V₂ (Proc.devRef .tc Cert.ReferenceIdeal.main_c_8))
    ∧ @Eq ((⟨Cert.KernelIdeal.S2, .i32⟩ : BufTy).Contents (Elt Ideal)) (ΦK V₁ (Proc.devRef .tc Cert.KernelIdeal.main_c_9)) (ΦR V₂ (Proc.devRef .tc Cert.ReferenceIdeal.main_c_9))
    ∧ @Eq ((⟨Cert.KernelIdeal.S2, .i32⟩ : BufTy).Contents (Elt Ideal)) (ΦK V₁ (Proc.devRef .tc Cert.KernelIdeal.main_c_10)) (ΦR V₂ (Proc.devRef .tc Cert.ReferenceIdeal.main_c_10))
    ∧ @Eq ((⟨Cert.KernelIdeal.S2, .i32⟩ : BufTy).Contents (Elt Ideal)) (ΦK V₁ (Proc.devRef .tc Cert.KernelIdeal.main_c_11)) (ΦR V₂ (Proc.devRef .tc Cert.ReferenceIdeal.main_c_11))
    ∧ @Eq ((⟨Cert.KernelIdeal.S2, .i32⟩ : BufTy).Contents (Elt Ideal)) (ΦK V₁ (Proc.devRef .tc Cert.KernelIdeal.main_c_12)) (ΦR V₂ (Proc.devRef .tc Cert.ReferenceIdeal.main_c_12))
    ∧ @Eq ((⟨Cert.KernelIdeal.S2, .i32⟩ : BufTy).Contents (Elt Ideal)) (ΦK V₁ (Proc.devRef .tc Cert.KernelIdeal.main_c_13)) (ΦR V₂ (Proc.devRef .tc Cert.ReferenceIdeal.main_c_13))
    ∧ @Eq ((⟨Cert.KernelIdeal.S2, .i32⟩ : BufTy).Contents (Elt Ideal)) (ΦK V₁ (Proc.devRef .tc Cert.KernelIdeal.main_c_14)) (ΦR V₂ (Proc.devRef .tc Cert.ReferenceIdeal.main_c_14))
    ∧ @Eq ((⟨Cert.KernelIdeal.S2, .i32⟩ : BufTy).Contents (Elt Ideal)) (ΦK V₁ (Proc.devRef .tc Cert.KernelIdeal.main_c_15)) (ΦR V₂ (Proc.devRef .tc Cert.ReferenceIdeal.main_c_15))
    ∧ @Eq ((⟨Cert.KernelIdeal.S2, .i32⟩ : BufTy).Contents (Elt Ideal)) (ΦK V₁ (Proc.devRef .tc Cert.KernelIdeal.main_c_16)) (ΦR V₂ (Proc.devRef .tc Cert.ReferenceIdeal.main_c_16))
    ∧ @Eq ((⟨Cert.KernelIdeal.S2, .i32⟩ : BufTy).Contents (Elt Ideal)) (ΦK V₁ (Proc.devRef .tc Cert.KernelIdeal.main_c_17)) (ΦR V₂ (Proc.devRef .tc Cert.ReferenceIdeal.main_c_17))
    ∧ @Eq ((⟨Cert.KernelIdeal.S2, .i32⟩ : BufTy).Contents (Elt Ideal)) (ΦK V₁ (Proc.devRef .tc Cert.KernelIdeal.main_c_18)) (ΦR V₂ (Proc.devRef .tc Cert.ReferenceIdeal.main_c_18))
    ∧ @Eq ((⟨Cert.KernelIdeal.S2, .i32⟩ : BufTy).Contents (Elt Ideal)) (ΦK V₁ (Proc.devRef .tc Cert.KernelIdeal.main_c_19)) (ΦR V₂ (Proc.devRef .tc Cert.ReferenceIdeal.main_c_19))
    ∧ @Eq ((⟨Cert.KernelIdeal.S2, .i32⟩ : BufTy).Contents (Elt Ideal)) (ΦK V₁ (Proc.devRef .tc Cert.KernelIdeal.main_c_20)) (ΦR V₂ (Proc.devRef .tc Cert.ReferenceIdeal.main_c_20))
    ∧ @Eq ((⟨Cert.KernelIdeal.S2, .i32⟩ : BufTy).Contents (Elt Ideal)) (ΦK V₁ (Proc.devRef .tc Cert.KernelIdeal.main_c_21)) (ΦR V₂ (Proc.devRef .tc Cert.ReferenceIdeal.main_c_21))
    ∧ @Eq ((⟨Cert.KernelIdeal.S2, .i32⟩ : BufTy).Contents (Elt Ideal)) (ΦK V₁ (Proc.devRef .tc Cert.KernelIdeal.main_c_22)) (ΦR V₂ (Proc.devRef .tc Cert.ReferenceIdeal.main_c_22)) :=
  Hd (ΦK V₁) (ΦR V₂) (fixedK V₁ (List.mem_of_getElem? (i := 0) rfl)) (fixedR V₂ (List.mem_of_getElem? (i := 0) rfl)) (arg0 h) (arg1 h)

/-- Plane 0's interpolated array is the same in both programs. -/
theorem interp0 (h : ArgsAgree V₁ V₂) : @Eq ((⟨Cert.KernelIdeal.S131072x32, .f32⟩ : BufTy).Contents (Elt Ideal)) (ΦK V₁ (Proc.devRef .tc Cert.KernelIdeal.main_v137)) (ΦR V₂ (Proc.devRef .tc Cert.ReferenceIdeal.main_v137)) := by
  obtain ⟨hp4, hc0, hc1, hc2, hc3, hc4, hc5, hc6, hc7, hc8, hc9, hc10, hc11, hc12, hc13, hc14, hc15, hc16, hc17, hc18, hc19, hc20, hc21, hc22, hc23⟩ := head h
  exact B0 (ΦK V₁) (ΦR V₂) (fixedK V₁ (List.mem_of_getElem? (i := 0) rfl)) (fixedK V₁ (List.mem_of_getElem? (i := 1) rfl)) (fixedK V₁ (List.mem_of_getElem? (i := 2) rfl)) (fixedK V₁ (List.mem_of_getElem? (i := 3) rfl)) (fixedK V₁ (List.mem_of_getElem? (i := 4) rfl)) (fixedK V₁ (List.mem_of_getElem? (i := 5) rfl)) (fixedK V₁ (List.mem_of_getElem? (i := 6) rfl)) (fixedK V₁ (List.mem_of_getElem? (i := 7) rfl)) (fixedK V₁ (List.mem_of_getElem? (i := 8) rfl)) (fixedR V₂ (List.mem_of_getElem? (i := 0) rfl)) (fixedR V₂ (List.mem_of_getElem? (i := 1) rfl)) (fixedR V₂ (List.mem_of_getElem? (i := 2) rfl)) (fixedR V₂ (List.mem_of_getElem? (i := 3) rfl)) hc0 hp4 (arg2 h)

/-- Plane 1's interpolated array is the same in both programs. -/
theorem interp1 (h : ArgsAgree V₁ V₂) : @Eq ((⟨Cert.KernelIdeal.S131072x32, .f32⟩ : BufTy).Contents (Elt Ideal)) (ΦK V₁ (Proc.devRef .tc Cert.KernelIdeal.main_v266)) (ΦR V₂ (Proc.devRef .tc Cert.ReferenceIdeal.main_v266)) := by
  obtain ⟨hp4, hc0, hc1, hc2, hc3, hc4, hc5, hc6, hc7, hc8, hc9, hc10, hc11, hc12, hc13, hc14, hc15, hc16, hc17, hc18, hc19, hc20, hc21, hc22, hc23⟩ := head h
  exact B1 (ΦK V₁) (ΦR V₂) (fixedK V₁ (List.mem_of_getElem? (i := 8) rfl)) (fixedK V₁ (List.mem_of_getElem? (i := 9) rfl)) (fixedK V₁ (List.mem_of_getElem? (i := 10) rfl)) (fixedK V₁ (List.mem_of_getElem? (i := 11) rfl)) (fixedK V₁ (List.mem_of_getElem? (i := 12) rfl)) (fixedK V₁ (List.mem_of_getElem? (i := 13) rfl)) (fixedK V₁ (List.mem_of_getElem? (i := 14) rfl)) (fixedK V₁ (List.mem_of_getElem? (i := 15) rfl)) (fixedK V₁ (List.mem_of_getElem? (i := 16) rfl)) (fixedR V₂ (List.mem_of_getElem? (i := 3) rfl)) (fixedR V₂ (List.mem_of_getElem? (i := 4) rfl)) (fixedR V₂ (List.mem_of_getElem? (i := 5) rfl)) (fixedR V₂ (List.mem_of_getElem? (i := 6) rfl)) hc1 hp4 (arg3 h)

/-- Plane 2's interpolated array is the same in both programs. -/
theorem interp2 (h : ArgsAgree V₁ V₂) : @Eq ((⟨Cert.KernelIdeal.S131072x32, .f32⟩ : BufTy).Contents (Elt Ideal)) (ΦK V₁ (Proc.devRef .tc Cert.KernelIdeal.main_v395)) (ΦR V₂ (Proc.devRef .tc Cert.ReferenceIdeal.main_v396)) := by
  obtain ⟨hp4, hc0, hc1, hc2, hc3, hc4, hc5, hc6, hc7, hc8, hc9, hc10, hc11, hc12, hc13, hc14, hc15, hc16, hc17, hc18, hc19, hc20, hc21, hc22, hc23⟩ := head h
  exact B2 (ΦK V₁) (ΦR V₂) (fixedK V₁ (List.mem_of_getElem? (i := 16) rfl)) (fixedK V₁ (List.mem_of_getElem? (i := 17) rfl)) (fixedK V₁ (List.mem_of_getElem? (i := 18) rfl)) (fixedK V₁ (List.mem_of_getElem? (i := 19) rfl)) (fixedK V₁ (List.mem_of_getElem? (i := 20) rfl)) (fixedK V₁ (List.mem_of_getElem? (i := 21) rfl)) (fixedK V₁ (List.mem_of_getElem? (i := 22) rfl)) (fixedK V₁ (List.mem_of_getElem? (i := 23) rfl)) (fixedK V₁ (List.mem_of_getElem? (i := 24) rfl)) (fixedR V₂ (List.mem_of_getElem? (i := 6) rfl)) (fixedR V₂ (List.mem_of_getElem? (i := 7) rfl)) (fixedR V₂ (List.mem_of_getElem? (i := 8) rfl)) hc2 hp4 (arg4 h)

/-- Plane 3's interpolated array is the same in both programs. -/
theorem interp3 (h : ArgsAgree V₁ V₂) : @Eq ((⟨Cert.KernelIdeal.S131072x32, .f32⟩ : BufTy).Contents (Elt Ideal)) (ΦK V₁ (Proc.devRef .tc Cert.KernelIdeal.main_v524)) (ΦR V₂ (Proc.devRef .tc Cert.ReferenceIdeal.main_v526)) := by
  obtain ⟨hp4, hc0, hc1, hc2, hc3, hc4, hc5, hc6, hc7, hc8, hc9, hc10, hc11, hc12, hc13, hc14, hc15, hc16, hc17, hc18, hc19, hc20, hc21, hc22, hc23⟩ := head h
  exact B3 (ΦK V₁) (ΦR V₂) (fixedK V₁ (List.mem_of_getElem? (i := 24) rfl)) (fixedK V₁ (List.mem_of_getElem? (i := 25) rfl)) (fixedK V₁ (List.mem_of_getElem? (i := 26) rfl)) (fixedK V₁ (List.mem_of_getElem? (i := 27) rfl)) (fixedK V₁ (List.mem_of_getElem? (i := 28) rfl)) (fixedK V₁ (List.mem_of_getElem? (i := 29) rfl)) (fixedK V₁ (List.mem_of_getElem? (i := 30) rfl)) (fixedK V₁ (List.mem_of_getElem? (i := 31) rfl)) (fixedK V₁ (List.mem_of_getElem? (i := 32) rfl)) (fixedR V₂ (List.mem_of_getElem? (i := 8) rfl)) (fixedR V₂ (List.mem_of_getElem? (i := 9) rfl)) (fixedR V₂ (List.mem_of_getElem? (i := 10) rfl)) (fixedR V₂ (List.mem_of_getElem? (i := 11) rfl)) hc3 hp4 (arg5 h)

/-- Plane 4's interpolated array is the same in both programs. -/
theorem interp4 (h : ArgsAgree V₁ V₂) : @Eq ((⟨Cert.KernelIdeal.S131072x32, .f32⟩ : BufTy).Contents (Elt Ideal)) (ΦK V₁ (Proc.devRef .tc Cert.KernelIdeal.main_v653)) (ΦR V₂ (Proc.devRef .tc Cert.ReferenceIdeal.main_v656)) := by
  obtain ⟨hp4, hc0, hc1, hc2, hc3, hc4, hc5, hc6, hc7, hc8, hc9, hc10, hc11, hc12, hc13, hc14, hc15, hc16, hc17, hc18, hc19, hc20, hc21, hc22, hc23⟩ := head h
  exact B4 (ΦK V₁) (ΦR V₂) (fixedK V₁ (List.mem_of_getElem? (i := 32) rfl)) (fixedK V₁ (List.mem_of_getElem? (i := 33) rfl)) (fixedK V₁ (List.mem_of_getElem? (i := 34) rfl)) (fixedK V₁ (List.mem_of_getElem? (i := 35) rfl)) (fixedK V₁ (List.mem_of_getElem? (i := 36) rfl)) (fixedK V₁ (List.mem_of_getElem? (i := 37) rfl)) (fixedK V₁ (List.mem_of_getElem? (i := 38) rfl)) (fixedK V₁ (List.mem_of_getElem? (i := 39) rfl)) (fixedK V₁ (List.mem_of_getElem? (i := 40) rfl)) (fixedR V₂ (List.mem_of_getElem? (i := 11) rfl)) (fixedR V₂ (List.mem_of_getElem? (i := 12) rfl)) (fixedR V₂ (List.mem_of_getElem? (i := 13) rfl)) (fixedR V₂ (List.mem_of_getElem? (i := 14) rfl)) hc4 hp4 (arg6 h)

/-- Plane 5's interpolated array is the same in both programs. -/
theorem interp5 (h : ArgsAgree V₁ V₂) : @Eq ((⟨Cert.KernelIdeal.S131072x32, .f32⟩ : BufTy).Contents (Elt Ideal)) (ΦK V₁ (Proc.devRef .tc Cert.KernelIdeal.main_v782)) (ΦR V₂ (Proc.devRef .tc Cert.ReferenceIdeal.main_v786)) := by
  obtain ⟨hp4, hc0, hc1, hc2, hc3, hc4, hc5, hc6, hc7, hc8, hc9, hc10, hc11, hc12, hc13, hc14, hc15, hc16, hc17, hc18, hc19, hc20, hc21, hc22, hc23⟩ := head h
  exact B5 (ΦK V₁) (ΦR V₂) (fixedK V₁ (List.mem_of_getElem? (i := 40) rfl)) (fixedK V₁ (List.mem_of_getElem? (i := 41) rfl)) (fixedK V₁ (List.mem_of_getElem? (i := 42) rfl)) (fixedK V₁ (List.mem_of_getElem? (i := 43) rfl)) (fixedK V₁ (List.mem_of_getElem? (i := 44) rfl)) (fixedK V₁ (List.mem_of_getElem? (i := 45) rfl)) (fixedK V₁ (List.mem_of_getElem? (i := 46) rfl)) (fixedK V₁ (List.mem_of_getElem? (i := 47) rfl)) (fixedK V₁ (List.mem_of_getElem? (i := 48) rfl)) (fixedR V₂ (List.mem_of_getElem? (i := 14) rfl)) (fixedR V₂ (List.mem_of_getElem? (i := 15) rfl)) (fixedR V₂ (List.mem_of_getElem? (i := 16) rfl)) (fixedR V₂ (List.mem_of_getElem? (i := 17) rfl)) hc5 hp4 (arg7 h)

/-- Plane 6's interpolated array is the same in both programs. -/
theorem interp6 (h : ArgsAgree V₁ V₂) : @Eq ((⟨Cert.KernelIdeal.S131072x32, .f32⟩ : BufTy).Contents (Elt Ideal)) (ΦK V₁ (Proc.devRef .tc Cert.KernelIdeal.main_v911)) (ΦR V₂ (Proc.devRef .tc Cert.ReferenceIdeal.main_v916)) := by
  obtain ⟨hp4, hc0, hc1, hc2, hc3, hc4, hc5, hc6, hc7, hc8, hc9, hc10, hc11, hc12, hc13, hc14, hc15, hc16, hc17, hc18, hc19, hc20, hc21, hc22, hc23⟩ := head h
  exact B6 (ΦK V₁) (ΦR V₂) (fixedK V₁ (List.mem_of_getElem? (i := 48) rfl)) (fixedK V₁ (List.mem_of_getElem? (i := 49) rfl)) (fixedK V₁ (List.mem_of_getElem? (i := 50) rfl)) (fixedK V₁ (List.mem_of_getElem? (i := 51) rfl)) (fixedK V₁ (List.mem_of_getElem? (i := 52) rfl)) (fixedK V₁ (List.mem_of_getElem? (i := 53) rfl)) (fixedK V₁ (List.mem_of_getElem? (i := 54) rfl)) (fixedK V₁ (List.mem_of_getElem? (i := 55) rfl)) (fixedK V₁ (List.mem_of_getElem? (i := 56) rfl)) (fixedR V₂ (List.mem_of_getElem? (i := 17) rfl)) (fixedR V₂ (List.mem_of_getElem? (i := 18) rfl)) (fixedR V₂ (List.mem_of_getElem? (i := 19) rfl)) (fixedR V₂ (List.mem_of_getElem? (i := 20) rfl)) hc6 hp4 (arg8 h)

/-- Plane 7's interpolated array is the same in both programs. -/
theorem interp7 (h : ArgsAgree V₁ V₂) : @Eq ((⟨Cert.KernelIdeal.S131072x32, .f32⟩ : BufTy).Contents (Elt Ideal)) (ΦK V₁ (Proc.devRef .tc Cert.KernelIdeal.main_v1040)) (ΦR V₂ (Proc.devRef .tc Cert.ReferenceIdeal.main_v1045)) := by
  obtain ⟨hp4, hc0, hc1, hc2, hc3, hc4, hc5, hc6, hc7, hc8, hc9, hc10, hc11, hc12, hc13, hc14, hc15, hc16, hc17, hc18, hc19, hc20, hc21, hc22, hc23⟩ := head h
  exact B7 (ΦK V₁) (ΦR V₂) (fixedK V₁ (List.mem_of_getElem? (i := 56) rfl)) (fixedK V₁ (List.mem_of_getElem? (i := 57) rfl)) (fixedK V₁ (List.mem_of_getElem? (i := 58) rfl)) (fixedK V₁ (List.mem_of_getElem? (i := 59) rfl)) (fixedK V₁ (List.mem_of_getElem? (i := 60) rfl)) (fixedK V₁ (List.mem_of_getElem? (i := 61) rfl)) (fixedK V₁ (List.mem_of_getElem? (i := 62) rfl)) (fixedK V₁ (List.mem_of_getElem? (i := 63) rfl)) (fixedK V₁ (List.mem_of_getElem? (i := 64) rfl)) (fixedR V₂ (List.mem_of_getElem? (i := 20) rfl)) (fixedR V₂ (List.mem_of_getElem? (i := 21) rfl)) (fixedR V₂ (List.mem_of_getElem? (i := 22) rfl)) hc7 hp4 (arg9 h)

/-- Plane 8's interpolated array is the same in both programs. -/
theorem interp8 (h : ArgsAgree V₁ V₂) : @Eq ((⟨Cert.KernelIdeal.S131072x32, .f32⟩ : BufTy).Contents (Elt Ideal)) (ΦK V₁ (Proc.devRef .tc Cert.KernelIdeal.main_v1169)) (ΦR V₂ (Proc.devRef .tc Cert.ReferenceIdeal.main_v1175)) := by
  obtain ⟨hp4, hc0, hc1, hc2, hc3, hc4, hc5, hc6, hc7, hc8, hc9, hc10, hc11, hc12, hc13, hc14, hc15, hc16, hc17, hc18, hc19, hc20, hc21, hc22, hc23⟩ := head h
  exact B8 (ΦK V₁) (ΦR V₂) (fixedK V₁ (List.mem_of_getElem? (i := 64) rfl)) (fixedK V₁ (List.mem_of_getElem? (i := 65) rfl)) (fixedK V₁ (List.mem_of_getElem? (i := 66) rfl)) (fixedK V₁ (List.mem_of_getElem? (i := 67) rfl)) (fixedK V₁ (List.mem_of_getElem? (i := 68) rfl)) (fixedK V₁ (List.mem_of_getElem? (i := 69) rfl)) (fixedK V₁ (List.mem_of_getElem? (i := 70) rfl)) (fixedK V₁ (List.mem_of_getElem? (i := 71) rfl)) (fixedK V₁ (List.mem_of_getElem? (i := 72) rfl)) (fixedR V₂ (List.mem_of_getElem? (i := 22) rfl)) (fixedR V₂ (List.mem_of_getElem? (i := 23) rfl)) (fixedR V₂ (List.mem_of_getElem? (i := 24) rfl)) (fixedR V₂ (List.mem_of_getElem? (i := 25) rfl)) hc8 hp4 (arg10 h)

/-- Plane 9's interpolated array is the same in both programs. -/
theorem interp9 (h : ArgsAgree V₁ V₂) : @Eq ((⟨Cert.KernelIdeal.S131072x32, .f32⟩ : BufTy).Contents (Elt Ideal)) (ΦK V₁ (Proc.devRef .tc Cert.KernelIdeal.main_v1298)) (ΦR V₂ (Proc.devRef .tc Cert.ReferenceIdeal.main_v1305)) := by
  obtain ⟨hp4, hc0, hc1, hc2, hc3, hc4, hc5, hc6, hc7, hc8, hc9, hc10, hc11, hc12, hc13, hc14, hc15, hc16, hc17, hc18, hc19, hc20, hc21, hc22, hc23⟩ := head h
  exact B9 (ΦK V₁) (ΦR V₂) (fixedK V₁ (List.mem_of_getElem? (i := 72) rfl)) (fixedK V₁ (List.mem_of_getElem? (i := 73) rfl)) (fixedK V₁ (List.mem_of_getElem? (i := 74) rfl)) (fixedK V₁ (List.mem_of_getElem? (i := 75) rfl)) (fixedK V₁ (List.mem_of_getElem? (i := 76) rfl)) (fixedK V₁ (List.mem_of_getElem? (i := 77) rfl)) (fixedK V₁ (List.mem_of_getElem? (i := 78) rfl)) (fixedK V₁ (List.mem_of_getElem? (i := 79) rfl)) (fixedK V₁ (List.mem_of_getElem? (i := 80) rfl)) (fixedR V₂ (List.mem_of_getElem? (i := 25) rfl)) (fixedR V₂ (List.mem_of_getElem? (i := 26) rfl)) (fixedR V₂ (List.mem_of_getElem? (i := 27) rfl)) (fixedR V₂ (List.mem_of_getElem? (i := 28) rfl)) hc9 hp4 (arg11 h)

/-- Plane 10's interpolated array is the same in both programs. -/
theorem interp10 (h : ArgsAgree V₁ V₂) : @Eq ((⟨Cert.KernelIdeal.S131072x32, .f32⟩ : BufTy).Contents (Elt Ideal)) (ΦK V₁ (Proc.devRef .tc Cert.KernelIdeal.main_v1427)) (ΦR V₂ (Proc.devRef .tc Cert.ReferenceIdeal.main_v1435)) := by
  obtain ⟨hp4, hc0, hc1, hc2, hc3, hc4, hc5, hc6, hc7, hc8, hc9, hc10, hc11, hc12, hc13, hc14, hc15, hc16, hc17, hc18, hc19, hc20, hc21, hc22, hc23⟩ := head h
  exact B10 (ΦK V₁) (ΦR V₂) (fixedK V₁ (List.mem_of_getElem? (i := 80) rfl)) (fixedK V₁ (List.mem_of_getElem? (i := 81) rfl)) (fixedK V₁ (List.mem_of_getElem? (i := 82) rfl)) (fixedK V₁ (List.mem_of_getElem? (i := 83) rfl)) (fixedK V₁ (List.mem_of_getElem? (i := 84) rfl)) (fixedK V₁ (List.mem_of_getElem? (i := 85) rfl)) (fixedK V₁ (List.mem_of_getElem? (i := 86) rfl)) (fixedK V₁ (List.mem_of_getElem? (i := 87) rfl)) (fixedK V₁ (List.mem_of_getElem? (i := 88) rfl)) (fixedR V₂ (List.mem_of_getElem? (i := 28) rfl)) (fixedR V₂ (List.mem_of_getElem? (i := 29) rfl)) (fixedR V₂ (List.mem_of_getElem? (i := 30) rfl)) (fixedR V₂ (List.mem_of_getElem? (i := 31) rfl)) hc10 hp4 (arg12 h)

/-- Plane 11's interpolated array is the same in both programs. -/
theorem interp11 (h : ArgsAgree V₁ V₂) : @Eq ((⟨Cert.KernelIdeal.S131072x32, .f32⟩ : BufTy).Contents (Elt Ideal)) (ΦK V₁ (Proc.devRef .tc Cert.KernelIdeal.main_v1556)) (ΦR V₂ (Proc.devRef .tc Cert.ReferenceIdeal.main_v1565)) := by
  obtain ⟨hp4, hc0, hc1, hc2, hc3, hc4, hc5, hc6, hc7, hc8, hc9, hc10, hc11, hc12, hc13, hc14, hc15, hc16, hc17, hc18, hc19, hc20, hc21, hc22, hc23⟩ := head h
  exact B11 (ΦK V₁) (ΦR V₂) (fixedK V₁ (List.mem_of_getElem? (i := 88) rfl)) (fixedK V₁ (List.mem_of_getElem? (i := 89) rfl)) (fixedK V₁ (List.mem_of_getElem? (i := 90) rfl)) (fixedK V₁ (List.mem_of_getElem? (i := 91) rfl)) (fixedK V₁ (List.mem_of_getElem? (i := 92) rfl)) (fixedK V₁ (List.mem_of_getElem? (i := 93) rfl)) (fixedK V₁ (List.mem_of_getElem? (i := 94) rfl)) (fixedK V₁ (List.mem_of_getElem? (i := 95) rfl)) (fixedK V₁ (List.mem_of_getElem? (i := 96) rfl)) (fixedR V₂ (List.mem_of_getElem? (i := 31) rfl)) (fixedR V₂ (List.mem_of_getElem? (i := 32) rfl)) (fixedR V₂ (List.mem_of_getElem? (i := 33) rfl)) (fixedR V₂ (List.mem_of_getElem? (i := 34) rfl)) hc11 hp4 (arg13 h)

/-- Plane 12's interpolated array is the same in both programs. -/
theorem interp12 (h : ArgsAgree V₁ V₂) : @Eq ((⟨Cert.KernelIdeal.S131072x32, .f32⟩ : BufTy).Contents (Elt Ideal)) (ΦK V₁ (Proc.devRef .tc Cert.KernelIdeal.main_v1685)) (ΦR V₂ (Proc.devRef .tc Cert.ReferenceIdeal.main_v1695)) := by
  obtain ⟨hp4, hc0, hc1, hc2, hc3, hc4, hc5, hc6, hc7, hc8, hc9, hc10, hc11, hc12, hc13, hc14, hc15, hc16, hc17, hc18, hc19, hc20, hc21, hc22, hc23⟩ := head h
  exact B12 (ΦK V₁) (ΦR V₂) (fixedK V₁ (List.mem_of_getElem? (i := 96) rfl)) (fixedK V₁ (List.mem_of_getElem? (i := 97) rfl)) (fixedK V₁ (List.mem_of_getElem? (i := 98) rfl)) (fixedK V₁ (List.mem_of_getElem? (i := 99) rfl)) (fixedK V₁ (List.mem_of_getElem? (i := 100) rfl)) (fixedK V₁ (List.mem_of_getElem? (i := 101) rfl)) (fixedK V₁ (List.mem_of_getElem? (i := 102) rfl)) (fixedK V₁ (List.mem_of_getElem? (i := 103) rfl)) (fixedK V₁ (List.mem_of_getElem? (i := 104) rfl)) (fixedR V₂ (List.mem_of_getElem? (i := 34) rfl)) (fixedR V₂ (List.mem_of_getElem? (i := 35) rfl)) (fixedR V₂ (List.mem_of_getElem? (i := 36) rfl)) hc12 hp4 (arg14 h)

/-- Plane 13's interpolated array is the same in both programs. -/
theorem interp13 (h : ArgsAgree V₁ V₂) : @Eq ((⟨Cert.KernelIdeal.S131072x32, .f32⟩ : BufTy).Contents (Elt Ideal)) (ΦK V₁ (Proc.devRef .tc Cert.KernelIdeal.main_v1814)) (ΦR V₂ (Proc.devRef .tc Cert.ReferenceIdeal.main_v1824)) := by
  obtain ⟨hp4, hc0, hc1, hc2, hc3, hc4, hc5, hc6, hc7, hc8, hc9, hc10, hc11, hc12, hc13, hc14, hc15, hc16, hc17, hc18, hc19, hc20, hc21, hc22, hc23⟩ := head h
  exact B13 (ΦK V₁) (ΦR V₂) (fixedK V₁ (List.mem_of_getElem? (i := 104) rfl)) (fixedK V₁ (List.mem_of_getElem? (i := 105) rfl)) (fixedK V₁ (List.mem_of_getElem? (i := 106) rfl)) (fixedK V₁ (List.mem_of_getElem? (i := 107) rfl)) (fixedK V₁ (List.mem_of_getElem? (i := 108) rfl)) (fixedK V₁ (List.mem_of_getElem? (i := 109) rfl)) (fixedK V₁ (List.mem_of_getElem? (i := 110) rfl)) (fixedK V₁ (List.mem_of_getElem? (i := 111) rfl)) (fixedK V₁ (List.mem_of_getElem? (i := 112) rfl)) (fixedR V₂ (List.mem_of_getElem? (i := 36) rfl)) (fixedR V₂ (List.mem_of_getElem? (i := 37) rfl)) (fixedR V₂ (List.mem_of_getElem? (i := 38) rfl)) (fixedR V₂ (List.mem_of_getElem? (i := 39) rfl)) hc13 hp4 (arg15 h)

/-- Plane 14's interpolated array is the same in both programs. -/
theorem interp14 (h : ArgsAgree V₁ V₂) : @Eq ((⟨Cert.KernelIdeal.S131072x32, .f32⟩ : BufTy).Contents (Elt Ideal)) (ΦK V₁ (Proc.devRef .tc Cert.KernelIdeal.main_v1943)) (ΦR V₂ (Proc.devRef .tc Cert.ReferenceIdeal.main_v1954)) := by
  obtain ⟨hp4, hc0, hc1, hc2, hc3, hc4, hc5, hc6, hc7, hc8, hc9, hc10, hc11, hc12, hc13, hc14, hc15, hc16, hc17, hc18, hc19, hc20, hc21, hc22, hc23⟩ := head h
  exact B14 (ΦK V₁) (ΦR V₂) (fixedK V₁ (List.mem_of_getElem? (i := 112) rfl)) (fixedK V₁ (List.mem_of_getElem? (i := 113) rfl)) (fixedK V₁ (List.mem_of_getElem? (i := 114) rfl)) (fixedK V₁ (List.mem_of_getElem? (i := 115) rfl)) (fixedK V₁ (List.mem_of_getElem? (i := 116) rfl)) (fixedK V₁ (List.mem_of_getElem? (i := 117) rfl)) (fixedK V₁ (List.mem_of_getElem? (i := 118) rfl)) (fixedK V₁ (List.mem_of_getElem? (i := 119) rfl)) (fixedK V₁ (List.mem_of_getElem? (i := 120) rfl)) (fixedR V₂ (List.mem_of_getElem? (i := 39) rfl)) (fixedR V₂ (List.mem_of_getElem? (i := 40) rfl)) (fixedR V₂ (List.mem_of_getElem? (i := 41) rfl)) (fixedR V₂ (List.mem_of_getElem? (i := 42) rfl)) hc14 hp4 (arg16 h)

/-- Plane 15's interpolated array is the same in both programs. -/
theorem interp15 (h : ArgsAgree V₁ V₂) : @Eq ((⟨Cert.KernelIdeal.S131072x32, .f32⟩ : BufTy).Contents (Elt Ideal)) (ΦK V₁ (Proc.devRef .tc Cert.KernelIdeal.main_v2072)) (ΦR V₂ (Proc.devRef .tc Cert.ReferenceIdeal.main_v2084)) := by
  obtain ⟨hp4, hc0, hc1, hc2, hc3, hc4, hc5, hc6, hc7, hc8, hc9, hc10, hc11, hc12, hc13, hc14, hc15, hc16, hc17, hc18, hc19, hc20, hc21, hc22, hc23⟩ := head h
  exact B15 (ΦK V₁) (ΦR V₂) (fixedK V₁ (List.mem_of_getElem? (i := 120) rfl)) (fixedK V₁ (List.mem_of_getElem? (i := 121) rfl)) (fixedK V₁ (List.mem_of_getElem? (i := 122) rfl)) (fixedK V₁ (List.mem_of_getElem? (i := 123) rfl)) (fixedK V₁ (List.mem_of_getElem? (i := 124) rfl)) (fixedK V₁ (List.mem_of_getElem? (i := 125) rfl)) (fixedK V₁ (List.mem_of_getElem? (i := 126) rfl)) (fixedK V₁ (List.mem_of_getElem? (i := 127) rfl)) (fixedK V₁ (List.mem_of_getElem? (i := 128) rfl)) (fixedR V₂ (List.mem_of_getElem? (i := 42) rfl)) (fixedR V₂ (List.mem_of_getElem? (i := 43) rfl)) (fixedR V₂ (List.mem_of_getElem? (i := 44) rfl)) (fixedR V₂ (List.mem_of_getElem? (i := 45) rfl)) hc15 hp4 (arg17 h)

/-- Plane 16's interpolated array is the same in both programs. -/
theorem interp16 (h : ArgsAgree V₁ V₂) : @Eq ((⟨Cert.KernelIdeal.S131072x32, .f32⟩ : BufTy).Contents (Elt Ideal)) (ΦK V₁ (Proc.devRef .tc Cert.KernelIdeal.main_v2201)) (ΦR V₂ (Proc.devRef .tc Cert.ReferenceIdeal.main_v2214)) := by
  obtain ⟨hp4, hc0, hc1, hc2, hc3, hc4, hc5, hc6, hc7, hc8, hc9, hc10, hc11, hc12, hc13, hc14, hc15, hc16, hc17, hc18, hc19, hc20, hc21, hc22, hc23⟩ := head h
  exact B16 (ΦK V₁) (ΦR V₂) (fixedK V₁ (List.mem_of_getElem? (i := 128) rfl)) (fixedK V₁ (List.mem_of_getElem? (i := 129) rfl)) (fixedK V₁ (List.mem_of_getElem? (i := 130) rfl)) (fixedK V₁ (List.mem_of_getElem? (i := 131) rfl)) (fixedK V₁ (List.mem_of_getElem? (i := 132) rfl)) (fixedK V₁ (List.mem_of_getElem? (i := 133) rfl)) (fixedK V₁ (List.mem_of_getElem? (i := 134) rfl)) (fixedK V₁ (List.mem_of_getElem? (i := 135) rfl)) (fixedK V₁ (List.mem_of_getElem? (i := 136) rfl)) (fixedR V₂ (List.mem_of_getElem? (i := 45) rfl)) (fixedR V₂ (List.mem_of_getElem? (i := 46) rfl)) (fixedR V₂ (List.mem_of_getElem? (i := 47) rfl)) (fixedR V₂ (List.mem_of_getElem? (i := 48) rfl)) hc16 hp4 (arg18 h)

/-- Plane 17's interpolated array is the same in both programs. -/
theorem interp17 (h : ArgsAgree V₁ V₂) : @Eq ((⟨Cert.KernelIdeal.S131072x32, .f32⟩ : BufTy).Contents (Elt Ideal)) (ΦK V₁ (Proc.devRef .tc Cert.KernelIdeal.main_v2330)) (ΦR V₂ (Proc.devRef .tc Cert.ReferenceIdeal.main_v2344)) := by
  obtain ⟨hp4, hc0, hc1, hc2, hc3, hc4, hc5, hc6, hc7, hc8, hc9, hc10, hc11, hc12, hc13, hc14, hc15, hc16, hc17, hc18, hc19, hc20, hc21, hc22, hc23⟩ := head h
  exact B17 (ΦK V₁) (ΦR V₂) (fixedK V₁ (List.mem_of_getElem? (i := 136) rfl)) (fixedK V₁ (List.mem_of_getElem? (i := 137) rfl)) (fixedK V₁ (List.mem_of_getElem? (i := 138) rfl)) (fixedK V₁ (List.mem_of_getElem? (i := 139) rfl)) (fixedK V₁ (List.mem_of_getElem? (i := 140) rfl)) (fixedK V₁ (List.mem_of_getElem? (i := 141) rfl)) (fixedK V₁ (List.mem_of_getElem? (i := 142) rfl)) (fixedK V₁ (List.mem_of_getElem? (i := 143) rfl)) (fixedK V₁ (List.mem_of_getElem? (i := 144) rfl)) (fixedR V₂ (List.mem_of_getElem? (i := 48) rfl)) (fixedR V₂ (List.mem_of_getElem? (i := 49) rfl)) (fixedR V₂ (List.mem_of_getElem? (i := 50) rfl)) hc17 hp4 (arg19 h)

/-- Plane 18's interpolated array is the same in both programs. -/
theorem interp18 (h : ArgsAgree V₁ V₂) : @Eq ((⟨Cert.KernelIdeal.S131072x32, .f32⟩ : BufTy).Contents (Elt Ideal)) (ΦK V₁ (Proc.devRef .tc Cert.KernelIdeal.main_v2459)) (ΦR V₂ (Proc.devRef .tc Cert.ReferenceIdeal.main_v2474)) := by
  obtain ⟨hp4, hc0, hc1, hc2, hc3, hc4, hc5, hc6, hc7, hc8, hc9, hc10, hc11, hc12, hc13, hc14, hc15, hc16, hc17, hc18, hc19, hc20, hc21, hc22, hc23⟩ := head h
  exact B18 (ΦK V₁) (ΦR V₂) (fixedK V₁ (List.mem_of_getElem? (i := 144) rfl)) (fixedK V₁ (List.mem_of_getElem? (i := 145) rfl)) (fixedK V₁ (List.mem_of_getElem? (i := 146) rfl)) (fixedK V₁ (List.mem_of_getElem? (i := 147) rfl)) (fixedK V₁ (List.mem_of_getElem? (i := 148) rfl)) (fixedK V₁ (List.mem_of_getElem? (i := 149) rfl)) (fixedK V₁ (List.mem_of_getElem? (i := 150) rfl)) (fixedK V₁ (List.mem_of_getElem? (i := 151) rfl)) (fixedK V₁ (List.mem_of_getElem? (i := 152) rfl)) (fixedR V₂ (List.mem_of_getElem? (i := 50) rfl)) (fixedR V₂ (List.mem_of_getElem? (i := 51) rfl)) (fixedR V₂ (List.mem_of_getElem? (i := 52) rfl)) (fixedR V₂ (List.mem_of_getElem? (i := 53) rfl)) hc18 hp4 (arg20 h)

/-- Plane 19's interpolated array is the same in both programs. -/
theorem interp19 (h : ArgsAgree V₁ V₂) : @Eq ((⟨Cert.KernelIdeal.S131072x32, .f32⟩ : BufTy).Contents (Elt Ideal)) (ΦK V₁ (Proc.devRef .tc Cert.KernelIdeal.main_v2588)) (ΦR V₂ (Proc.devRef .tc Cert.ReferenceIdeal.main_v2603)) := by
  obtain ⟨hp4, hc0, hc1, hc2, hc3, hc4, hc5, hc6, hc7, hc8, hc9, hc10, hc11, hc12, hc13, hc14, hc15, hc16, hc17, hc18, hc19, hc20, hc21, hc22, hc23⟩ := head h
  exact B19 (ΦK V₁) (ΦR V₂) (fixedK V₁ (List.mem_of_getElem? (i := 152) rfl)) (fixedK V₁ (List.mem_of_getElem? (i := 153) rfl)) (fixedK V₁ (List.mem_of_getElem? (i := 154) rfl)) (fixedK V₁ (List.mem_of_getElem? (i := 155) rfl)) (fixedK V₁ (List.mem_of_getElem? (i := 156) rfl)) (fixedK V₁ (List.mem_of_getElem? (i := 157) rfl)) (fixedK V₁ (List.mem_of_getElem? (i := 158) rfl)) (fixedK V₁ (List.mem_of_getElem? (i := 159) rfl)) (fixedK V₁ (List.mem_of_getElem? (i := 160) rfl)) (fixedR V₂ (List.mem_of_getElem? (i := 53) rfl)) (fixedR V₂ (List.mem_of_getElem? (i := 54) rfl)) (fixedR V₂ (List.mem_of_getElem? (i := 55) rfl)) (fixedR V₂ (List.mem_of_getElem? (i := 56) rfl)) hc19 hp4 (arg21 h)

/-- Plane 20's interpolated array is the same in both programs. -/
theorem interp20 (h : ArgsAgree V₁ V₂) : @Eq ((⟨Cert.KernelIdeal.S131072x32, .f32⟩ : BufTy).Contents (Elt Ideal)) (ΦK V₁ (Proc.devRef .tc Cert.KernelIdeal.main_v2717)) (ΦR V₂ (Proc.devRef .tc Cert.ReferenceIdeal.main_v2733)) := by
  obtain ⟨hp4, hc0, hc1, hc2, hc3, hc4, hc5, hc6, hc7, hc8, hc9, hc10, hc11, hc12, hc13, hc14, hc15, hc16, hc17, hc18, hc19, hc20, hc21, hc22, hc23⟩ := head h
  exact B20 (ΦK V₁) (ΦR V₂) (fixedK V₁ (List.mem_of_getElem? (i := 160) rfl)) (fixedK V₁ (List.mem_of_getElem? (i := 161) rfl)) (fixedK V₁ (List.mem_of_getElem? (i := 162) rfl)) (fixedK V₁ (List.mem_of_getElem? (i := 163) rfl)) (fixedK V₁ (List.mem_of_getElem? (i := 164) rfl)) (fixedK V₁ (List.mem_of_getElem? (i := 165) rfl)) (fixedK V₁ (List.mem_of_getElem? (i := 166) rfl)) (fixedK V₁ (List.mem_of_getElem? (i := 167) rfl)) (fixedK V₁ (List.mem_of_getElem? (i := 168) rfl)) (fixedR V₂ (List.mem_of_getElem? (i := 56) rfl)) (fixedR V₂ (List.mem_of_getElem? (i := 57) rfl)) (fixedR V₂ (List.mem_of_getElem? (i := 58) rfl)) (fixedR V₂ (List.mem_of_getElem? (i := 59) rfl)) hc20 hp4 (arg22 h)

/-- Plane 21's interpolated array is the same in both programs. -/
theorem interp21 (h : ArgsAgree V₁ V₂) : @Eq ((⟨Cert.KernelIdeal.S131072x32, .f32⟩ : BufTy).Contents (Elt Ideal)) (ΦK V₁ (Proc.devRef .tc Cert.KernelIdeal.main_v2846)) (ΦR V₂ (Proc.devRef .tc Cert.ReferenceIdeal.main_v2863)) := by
  obtain ⟨hp4, hc0, hc1, hc2, hc3, hc4, hc5, hc6, hc7, hc8, hc9, hc10, hc11, hc12, hc13, hc14, hc15, hc16, hc17, hc18, hc19, hc20, hc21, hc22, hc23⟩ := head h
  exact B21 (ΦK V₁) (ΦR V₂) (fixedK V₁ (List.mem_of_getElem? (i := 168) rfl)) (fixedK V₁ (List.mem_of_getElem? (i := 169) rfl)) (fixedK V₁ (List.mem_of_getElem? (i := 170) rfl)) (fixedK V₁ (List.mem_of_getElem? (i := 171) rfl)) (fixedK V₁ (List.mem_of_getElem? (i := 172) rfl)) (fixedK V₁ (List.mem_of_getElem? (i := 173) rfl)) (fixedK V₁ (List.mem_of_getElem? (i := 174) rfl)) (fixedK V₁ (List.mem_of_getElem? (i := 175) rfl)) (fixedK V₁ (List.mem_of_getElem? (i := 176) rfl)) (fixedR V₂ (List.mem_of_getElem? (i := 59) rfl)) (fixedR V₂ (List.mem_of_getElem? (i := 60) rfl)) (fixedR V₂ (List.mem_of_getElem? (i := 61) rfl)) (fixedR V₂ (List.mem_of_getElem? (i := 62) rfl)) hc21 hp4 (arg23 h)

/-- Plane 22's interpolated array is the same in both programs. -/
theorem interp22 (h : ArgsAgree V₁ V₂) : @Eq ((⟨Cert.KernelIdeal.S131072x32, .f32⟩ : BufTy).Contents (Elt Ideal)) (ΦK V₁ (Proc.devRef .tc Cert.KernelIdeal.main_v2975)) (ΦR V₂ (Proc.devRef .tc Cert.ReferenceIdeal.main_v2993)) := by
  obtain ⟨hp4, hc0, hc1, hc2, hc3, hc4, hc5, hc6, hc7, hc8, hc9, hc10, hc11, hc12, hc13, hc14, hc15, hc16, hc17, hc18, hc19, hc20, hc21, hc22, hc23⟩ := head h
  exact B22 (ΦK V₁) (ΦR V₂) (fixedK V₁ (List.mem_of_getElem? (i := 176) rfl)) (fixedK V₁ (List.mem_of_getElem? (i := 177) rfl)) (fixedK V₁ (List.mem_of_getElem? (i := 178) rfl)) (fixedK V₁ (List.mem_of_getElem? (i := 179) rfl)) (fixedK V₁ (List.mem_of_getElem? (i := 180) rfl)) (fixedK V₁ (List.mem_of_getElem? (i := 181) rfl)) (fixedK V₁ (List.mem_of_getElem? (i := 182) rfl)) (fixedK V₁ (List.mem_of_getElem? (i := 183) rfl)) (fixedK V₁ (List.mem_of_getElem? (i := 184) rfl)) (fixedR V₂ (List.mem_of_getElem? (i := 62) rfl)) (fixedR V₂ (List.mem_of_getElem? (i := 63) rfl)) (fixedR V₂ (List.mem_of_getElem? (i := 64) rfl)) hc22 hp4 (arg24 h)

/-- Plane 23's interpolated array is the same in both programs. -/
theorem interp23 (h : ArgsAgree V₁ V₂) : @Eq ((⟨Cert.KernelIdeal.S131072x32, .f32⟩ : BufTy).Contents (Elt Ideal)) (ΦK V₁ (Proc.devRef .tc Cert.KernelIdeal.main_v3104)) (ΦR V₂ (Proc.devRef .tc Cert.ReferenceIdeal.main_v3123)) := by
  obtain ⟨hp4, hc0, hc1, hc2, hc3, hc4, hc5, hc6, hc7, hc8, hc9, hc10, hc11, hc12, hc13, hc14, hc15, hc16, hc17, hc18, hc19, hc20, hc21, hc22, hc23⟩ := head h
  exact B23 (ΦK V₁) (ΦR V₂) (fixedK V₁ (List.mem_of_getElem? (i := 184) rfl)) (fixedK V₁ (List.mem_of_getElem? (i := 185) rfl)) (fixedK V₁ (List.mem_of_getElem? (i := 186) rfl)) (fixedK V₁ (List.mem_of_getElem? (i := 187) rfl)) (fixedK V₁ (List.mem_of_getElem? (i := 188) rfl)) (fixedK V₁ (List.mem_of_getElem? (i := 189) rfl)) (fixedK V₁ (List.mem_of_getElem? (i := 190) rfl)) (fixedK V₁ (List.mem_of_getElem? (i := 191) rfl)) (fixedK V₁ (List.mem_of_getElem? (i := 192) rfl)) (fixedR V₂ (List.mem_of_getElem? (i := 64) rfl)) (fixedR V₂ (List.mem_of_getElem? (i := 65) rfl)) (fixedR V₂ (List.mem_of_getElem? (i := 66) rfl)) (fixedR V₂ (List.mem_of_getElem? (i := 67) rfl)) hc23 hp4 (arg25 h)

/-! ## (3) The reference's products and last operations, read off its own equations -/

/-- Scale 0's feature array in the reference: the six-fold product of its interpolated arrays, left to right. -/
theorem feat0 : ΦR V₂ (Proc.devRef .tc Cert.ReferenceIdeal.main_v787) = prod6 (ΦR V₂ (Proc.devRef .tc Cert.ReferenceIdeal.main_v137)) (ΦR V₂ (Proc.devRef .tc Cert.ReferenceIdeal.main_v266)) (ΦR V₂ (Proc.devRef .tc Cert.ReferenceIdeal.main_v396)) (ΦR V₂ (Proc.devRef .tc Cert.ReferenceIdeal.main_v526)) (ΦR V₂ (Proc.devRef .tc Cert.ReferenceIdeal.main_v656)) (ΦR V₂ (Proc.devRef .tc Cert.ReferenceIdeal.main_v786)) := by
  have t0 := eq2 (at_ (fixedR V₂ (List.mem_of_getElem? (i := 6) rfl)) (i := 9) rfl)
  have t1 := eq2 (at_ (fixedR V₂ (List.mem_of_getElem? (i := 8) rfl)) (i := 57) rfl)
  have t2 := eq2 (at_ (fixedR V₂ (List.mem_of_getElem? (i := 11) rfl)) (i := 45) rfl)
  have t3 := eq2 (at_ (fixedR V₂ (List.mem_of_getElem? (i := 14) rfl)) (i := 33) rfl)
  have t4 := eq2 (at_ (fixedR V₂ (List.mem_of_getElem? (i := 17) rfl)) (i := 21) rfl)
  rw [t4, t3, t2, t1, t0]
  exact Cert.ReferenceIdeal.Tail.mulf5_eq _ _ _ _ _ _

/-- Scale 1's feature array in the reference: the six-fold product of its interpolated arrays, left to right. -/
theorem feat1 : ΦR V₂ (Proc.devRef .tc Cert.ReferenceIdeal.main_v1566) = prod6 (ΦR V₂ (Proc.devRef .tc Cert.ReferenceIdeal.main_v916)) (ΦR V₂ (Proc.devRef .tc Cert.ReferenceIdeal.main_v1045)) (ΦR V₂ (Proc.devRef .tc Cert.ReferenceIdeal.main_v1175)) (ΦR V₂ (Proc.devRef .tc Cert.ReferenceIdeal.main_v1305)) (ΦR V₂ (Proc.devRef .tc Cert.ReferenceIdeal.main_v1435)) (ΦR V₂ (Proc.devRef .tc Cert.ReferenceIdeal.main_v1565)) := by
  have t0 := eq2 (at_ (fixedR V₂ (List.mem_of_getElem? (i := 22) rfl)) (i := 56) rfl)
  have t1 := eq2 (at_ (fixedR V₂ (List.mem_of_getElem? (i := 25) rfl)) (i := 44) rfl)
  have t2 := eq2 (at_ (fixedR V₂ (List.mem_of_getElem? (i := 28) rfl)) (i := 32) rfl)
  have t3 := eq2 (at_ (fixedR V₂ (List.mem_of_getElem? (i := 31) rfl)) (i := 20) rfl)
  have t4 := eq2 (at_ (fixedR V₂ (List.mem_of_getElem? (i := 34) rfl)) (i := 8) rfl)
  rw [t4, t3, t2, t1, t0]
  exact Cert.ReferenceIdeal.Tail.mulf5_eq _ _ _ _ _ _

/-- Scale 2's feature array in the reference: the six-fold product of its interpolated arrays, left to right. -/
theorem feat2 : ΦR V₂ (Proc.devRef .tc Cert.ReferenceIdeal.main_v2345) = prod6 (ΦR V₂ (Proc.devRef .tc Cert.ReferenceIdeal.main_v1695)) (ΦR V₂ (Proc.devRef .tc Cert.ReferenceIdeal.main_v1824)) (ΦR V₂ (Proc.devRef .tc Cert.ReferenceIdeal.main_v1954)) (ΦR V₂ (Proc.devRef .tc Cert.ReferenceIdeal.main_v2084)) (ΦR V₂ (Proc.devRef .tc Cert.ReferenceIdeal.main_v2214)) (ΦR V₂ (Proc.devRef .tc Cert.ReferenceIdeal.main_v2344)) := by
  have t0 := eq2 (at_ (fixedR V₂ (List.mem_of_getElem? (i := 39) rfl)) (i := 43) rfl)
  have t1 := eq2 (at_ (fixedR V₂ (List.mem_of_getElem? (i := 42) rfl)) (i := 31) rfl)
  have t2 := eq2 (at_ (fixedR V₂ (List.mem_of_getElem? (i := 45) rfl)) (i := 19) rfl)
  have t3 := eq2 (at_ (fixedR V₂ (List.mem_of_getElem? (i := 48) rfl)) (i := 7) rfl)
  have t4 := eq2 (at_ (fixedR V₂ (List.mem_of_getElem? (i := 50) rfl)) (i := 55) rfl)
  rw [t4, t3, t2, t1, t0]
  exact Cert.ReferenceIdeal.Tail.mulf5_eq _ _ _ _ _ _

/-- Scale 3's feature array in the reference: the six-fold product of its interpolated arrays, left to right. -/
theorem feat3 : ΦR V₂ (Proc.devRef .tc Cert.ReferenceIdeal.main_v3124) = prod6 (ΦR V₂ (Proc.devRef .tc Cert.ReferenceIdeal.main_v2474)) (ΦR V₂ (Proc.devRef .tc Cert.ReferenceIdeal.main_v2603)) (ΦR V₂ (Proc.devRef .tc Cert.ReferenceIdeal.main_v2733)) (ΦR V₂ (Proc.devRef .tc Cert.ReferenceIdeal.main_v2863)) (ΦR V₂ (Proc.devRef .tc Cert.ReferenceIdeal.main_v2993)) (ΦR V₂ (Proc.devRef .tc Cert.ReferenceIdeal.main_v3123)) := by
  have t0 := eq2 (at_ (fixedR V₂ (List.mem_of_getElem? (i := 56) rfl)) (i := 30) rfl)
  have t1 := eq2 (at_ (fixedR V₂ (List.mem_of_getElem? (i := 59) rfl)) (i := 18) rfl)
  have t2 := eq2 (at_ (fixedR V₂ (List.mem_of_getElem? (i := 62) rfl)) (i := 6) rfl)
  have t3 := eq2 (at_ (fixedR V₂ (List.mem_of_getElem? (i := 64) rfl)) (i := 54) rfl)
  have t4 := eq2 (at_ (fixedR V₂ (List.mem_of_getElem? (i := 67) rfl)) (i := 42) rfl)
  rw [t4, t3, t2, t1, t0]
  exact Cert.ReferenceIdeal.Tail.mulf5_eq _ _ _ _ _ _

/-- The reference's result is its last operations' function of the four feature arrays and the two weight matrices. -/
theorem tail_value : ΦR V₂ (Proc.devRef .tc Cert.ReferenceIdeal.main_v3132)
    = Cert.ReferenceIdeal.Tail.tailFn (ΦR V₂ (Proc.devRef .tc Cert.ReferenceIdeal.main_v787)) (ΦR V₂ (Proc.devRef .tc Cert.ReferenceIdeal.main_v1566)) (ΦR V₂ (Proc.devRef .tc Cert.ReferenceIdeal.main_v2345)) (ΦR V₂ (Proc.devRef .tc Cert.ReferenceIdeal.main_v3124))
        (ΦR V₂ (Proc.devRef .tc Cert.ReferenceIdeal.main_arg26)) (ΦR V₂ (Proc.devRef .tc Cert.ReferenceIdeal.main_arg27)) := by
  have t3125 := eqN (at_ (fixedR V₂ (List.mem_of_getElem? (i := 67) rfl)) (i := 43) rfl)
  have t3126 := eq2 (at_ (fixedR V₂ (List.mem_of_getElem? (i := 67) rfl)) (i := 44) rfl)
  have tcst := eq0 (at_ (fixedR V₂ (List.mem_of_getElem? (i := 67) rfl)) (i := 45) rfl)
  have tv0 := eq1 (at_ (fixedR V₂ (List.mem_of_getElem? (i := 67) rfl)) (i := 46) rfl)
  have t3127 := eq2 (at_ (fixedR V₂ (List.mem_of_getElem? (i := 67) rfl)) (i := 47) rfl)
  have t3128 := eq2 (at_ (fixedR V₂ (List.mem_of_getElem? (i := 67) rfl)) (i := 48) rfl)
  have t3129 := eq1 (at_ (fixedR V₂ (List.mem_of_getElem? (i := 67) rfl)) (i := 49) rfl)
  have t3130 := eq1 (at_ (fixedR V₂ (List.mem_of_getElem? (i := 67) rfl)) (i := 50) rfl)
  have t3131 := eq1 (at_ (fixedR V₂ (List.mem_of_getElem? (i := 67) rfl)) (i := 51) rfl)
  have t3132 := eq2 (at_ (fixedR V₂ (List.mem_of_getElem? (i := 67) rfl)) (i := 52) rfl)
  rw [t3132, t3131, t3130, t3129, t3128, t3127, tv0, tcst, t3126, t3125]
  rfl

/-- The two weight matrices, as the kernel program's region finds them, are as launched. -/
theorem w1_kept : ΦK V₁ (Proc.devRef .tc Cert.KernelIdeal.main_arg26) = V₁ (Proc.devRef .tc Cert.KernelIdeal.main_arg26) :=
  after_keeps _ V₁ Cert.KernelIdeal.Stretch.all_chain.from Cert.KernelIdeal.main_arg26 (by decide)
theorem w2_kept : ΦK V₁ (Proc.devRef .tc Cert.KernelIdeal.main_arg27) = V₁ (Proc.devRef .tc Cert.KernelIdeal.main_arg27) :=
  after_keeps _ V₁ Cert.KernelIdeal.Stretch.all_chain.from Cert.KernelIdeal.main_arg27 (by decide)

/-- THE BRIDGE. From launch contents that agree on the arguments, the reference's result is the specification of the
    kernel program's own 24 interpolated arrays (as its region finds them) and the two weight matrices. -/
theorem reference_value (h : ArgsAgree V₁ V₂) :
    ΦR V₂ (Proc.devRef .tc Cert.ReferenceIdeal.main_v3132)
      = mlp (prod6 (ΦK V₁ (Proc.devRef .tc Cert.KernelIdeal.main_v137)) (ΦK V₁ (Proc.devRef .tc Cert.KernelIdeal.main_v266)) (ΦK V₁ (Proc.devRef .tc Cert.KernelIdeal.main_v395)) (ΦK V₁ (Proc.devRef .tc Cert.KernelIdeal.main_v524)) (ΦK V₁ (Proc.devRef .tc Cert.KernelIdeal.main_v653)) (ΦK V₁ (Proc.devRef .tc Cert.KernelIdeal.main_v782)))
          (prod6 (ΦK V₁ (Proc.devRef .tc Cert.KernelIdeal.main_v911)) (ΦK V₁ (Proc.devRef .tc Cert.KernelIdeal.main_v1040)) (ΦK V₁ (Proc.devRef .tc Cert.KernelIdeal.main_v1169)) (ΦK V₁ (Proc.devRef .tc Cert.KernelIdeal.main_v1298)) (ΦK V₁ (Proc.devRef .tc Cert.KernelIdeal.main_v1427)) (ΦK V₁ (Proc.devRef .tc Cert.KernelIdeal.main_v1556)))
          (prod6 (ΦK V₁ (Proc.devRef .tc Cert.KernelIdeal.main_v1685)) (ΦK V₁ (Proc.devRef .tc Cert.KernelIdeal.main_v1814)) (ΦK V₁ (Proc.devRef .tc Cert.KernelIdeal.main_v1943)) (ΦK V₁ (Proc.devRef .tc Cert.KernelIdeal.main_v2072)) (ΦK V₁ (Proc.devRef .tc Cert.KernelIdeal.main_v2201)) (ΦK V₁ (Proc.devRef .tc Cert.KernelIdeal.main_v2330)))
          (prod6 (ΦK V₁ (Proc.devRef .tc Cert.KernelIdeal.main_v2459)) (ΦK V₁ (Proc.devRef .tc Cert.KernelIdeal.main_v2588)) (ΦK V₁ (Proc.devRef .tc Cert.KernelIdeal.main_v2717)) (ΦK V₁ (Proc.devRef .tc Cert.KernelIdeal.main_v2846)) (ΦK V₁ (Proc.devRef .tc Cert.KernelIdeal.main_v2975)) (ΦK V₁ (Proc.devRef .tc Cert.KernelIdeal.main_v3104)))
          (V₁ (Proc.devRef .tc Cert.KernelIdeal.main_arg26)) (V₁ (Proc.devRef .tc Cert.KernelIdeal.main_arg27)) := by
  rw [tail_value, Cert.ReferenceIdeal.Tail.tailFn_eq, feat0, feat1, feat2, feat3,
    ← interp0 h, ← interp1 h, ← interp2 h, ← interp3 h, ← interp4 h, ← interp5 h, ← interp6 h, ← interp7 h, ← interp8 h, ← interp9 h, ← interp10 h, ← interp11 h, ← interp12 h, ← interp13 h, ← interp14 h, ← interp15 h, ← interp16 h, ← interp17 h, ← interp18 h, ← interp19 h, ← interp20 h, ← interp21 h, ← interp22 h, ← interp23 h,
    ← arg26 h, ← arg27 h, w1_kept, w2_kept]

end Cert.Bridge

end
-- ==== Proof.lean ====
/-
  A multi-scale plane field: 24 planes interpolated bilinearly at 131072 points, multiplied six at a time into four
  feature arrays of 32 columns, and a two-layer perceptron on their concatenation — hidden layer of 64 units clipped
  below at 0, 16 outputs, the last of which is exponentiated and moved to the front.

  The kernel program and the reference share the interpolation (the same host operations on the same arguments). The
  kernel computes the hidden layer as four 32-wide matrix products added left to right, block of 1024 points by block;
  the reference as one 128-wide product over the concatenated features. Read at the ideal values — floats as extended
  reals, every operation exact, a change of format the identity — the two differ only in how one sum of 128 products
  is grouped, and addition of extended reals is commutative and associative; nothing needs the inputs to be finite.

  Frames: the two kernel programs' frames are the launch-and-body certificates (copies of the generated frame modules,
  in which the 28 "argument is as launched" lemmas are derived from the host line being single-assignment); the
  reference's frame is its run with the result dropped. The idealization rewrote nothing, so it is preserved trivially.
  Value: the kernel's result array is the specification `Cert.KPlanes.mlp` of the 24 interpolated arrays its region
  finds and the two weight matrices; the reference's result is the same specification of ITS interpolated arrays,
  which are the kernel program's, buffer by buffer along the shared head.
-/
import proofs.«133805_j10187662426200_2_alg».proof.Defs
import proofs.«133805_j10187662426200_2_alg».proof.Proof.Gen.Kernel
import proofs.«133805_j10187662426200_2_alg».proof.Proof.Gen.KernelIdeal
import proofs.«133805_j10187662426200_2_alg».proof.Proof.Gen.ReferenceIdeal
import proofs.«133805_j10187662426200_2_alg».proof.Proof.Gen.Pre_finite_inputs
import proofs.«133805_j10187662426200_2_alg».proof.Proof.FrameKernel
import proofs.«133805_j10187662426200_2_alg».proof.Proof.FrameKernelIdeal
import proofs.«133805_j10187662426200_2_alg».proof.Proof.KernelValue
import proofs.«133805_j10187662426200_2_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo

theorem frame_kernel : Cert.frame_Kernel := fun m ρ _ => Cert.Kernel.GenP.frame m ρ

theorem frame_kernelIdeal : Cert.frame_KernelIdeal := fun m ρ _ => Cert.KernelIdeal.GenP.frame m ρ

/-- The reference's run with the result dropped: its 28 argument buffers are never written. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.HostRun.arg_kept _ Cert.ReferenceIdeal.main_arg0 (by decide)),
     (h c Cert.ReferenceIdeal.main_arg1).trans (Cert.ReferenceIdeal.HostRun.arg_kept _ Cert.ReferenceIdeal.main_arg1 (by decide)),
     (h c Cert.ReferenceIdeal.main_arg2).trans (Cert.ReferenceIdeal.HostRun.arg_kept _ Cert.ReferenceIdeal.main_arg2 (by decide)),
     (h c Cert.ReferenceIdeal.main_arg3).trans (Cert.ReferenceIdeal.HostRun.arg_kept _ Cert.ReferenceIdeal.main_arg3 (by decide)),
     (h c Cert.ReferenceIdeal.main_arg4).trans (Cert.ReferenceIdeal.HostRun.arg_kept _ Cert.ReferenceIdeal.main_arg4 (by decide)),
     (h c Cert.ReferenceIdeal.main_arg5).trans (Cert.ReferenceIdeal.HostRun.arg_kept _ Cert.ReferenceIdeal.main_arg5 (by decide)),
     (h c Cert.ReferenceIdeal.main_arg6).trans (Cert.ReferenceIdeal.HostRun.arg_kept _ Cert.ReferenceIdeal.main_arg6 (by decide)),
     (h c Cert.ReferenceIdeal.main_arg7).trans (Cert.ReferenceIdeal.HostRun.arg_kept _ Cert.ReferenceIdeal.main_arg7 (by decide)),
     (h c Cert.ReferenceIdeal.main_arg8).trans (Cert.ReferenceIdeal.HostRun.arg_kept _ Cert.ReferenceIdeal.main_arg8 (by decide)),
     (h c Cert.ReferenceIdeal.main_arg9).trans (Cert.ReferenceIdeal.HostRun.arg_kept _ Cert.ReferenceIdeal.main_arg9 (by decide)),
     (h c Cert.ReferenceIdeal.main_arg10).trans (Cert.ReferenceIdeal.HostRun.arg_kept _ Cert.ReferenceIdeal.main_arg10 (by decide)),
     (h c Cert.ReferenceIdeal.main_arg11).trans (Cert.ReferenceIdeal.HostRun.arg_kept _ Cert.ReferenceIdeal.main_arg11 (by decide)),
     (h c Cert.ReferenceIdeal.main_arg12).trans (Cert.ReferenceIdeal.HostRun.arg_kept _ Cert.ReferenceIdeal.main_arg12 (by decide)),
     (h c Cert.ReferenceIdeal.main_arg13).trans (Cert.ReferenceIdeal.HostRun.arg_kept _ Cert.ReferenceIdeal.main_arg13 (by decide)),
     (h c Cert.ReferenceIdeal.main_arg14).trans (Cert.ReferenceIdeal.HostRun.arg_kept _ Cert.ReferenceIdeal.main_arg14 (by decide)),
     (h c Cert.ReferenceIdeal.main_arg15).trans (Cert.ReferenceIdeal.HostRun.arg_kept _ Cert.ReferenceIdeal.main_arg15 (by decide)),
     (h c Cert.ReferenceIdeal.main_arg16).trans (Cert.ReferenceIdeal.HostRun.arg_kept _ Cert.ReferenceIdeal.main_arg16 (by decide)),
     (h c Cert.ReferenceIdeal.main_arg17).trans (Cert.ReferenceIdeal.HostRun.arg_kept _ Cert.ReferenceIdeal.main_arg17 (by decide)),
     (h c Cert.ReferenceIdeal.main_arg18).trans (Cert.ReferenceIdeal.HostRun.arg_kept _ Cert.ReferenceIdeal.main_arg18 (by decide)),
     (h c Cert.ReferenceIdeal.main_arg19).trans (Cert.ReferenceIdeal.HostRun.arg_kept _ Cert.ReferenceIdeal.main_arg19 (by decide)),
     (h c Cert.ReferenceIdeal.main_arg20).trans (Cert.ReferenceIdeal.HostRun.arg_kept _ Cert.ReferenceIdeal.main_arg20 (by decide)),
     (h c Cert.ReferenceIdeal.main_arg21).trans (Cert.ReferenceIdeal.HostRun.arg_kept _ Cert.ReferenceIdeal.main_arg21 (by decide)),
     (h c Cert.ReferenceIdeal.main_arg22).trans (Cert.ReferenceIdeal.HostRun.arg_kept _ Cert.ReferenceIdeal.main_arg22 (by decide)),
     (h c Cert.ReferenceIdeal.main_arg23).trans (Cert.ReferenceIdeal.HostRun.arg_kept _ Cert.ReferenceIdeal.main_arg23 (by decide)),
     (h c Cert.ReferenceIdeal.main_arg24).trans (Cert.ReferenceIdeal.HostRun.arg_kept _ Cert.ReferenceIdeal.main_arg24 (by decide)),
     (h c Cert.ReferenceIdeal.main_arg25).trans (Cert.ReferenceIdeal.HostRun.arg_kept _ Cert.ReferenceIdeal.main_arg25 (by decide)),
     (h c Cert.ReferenceIdeal.main_arg26).trans (Cert.ReferenceIdeal.HostRun.arg_kept _ Cert.ReferenceIdeal.main_arg26 (by decide)),
     (h c Cert.ReferenceIdeal.main_arg27).trans (Cert.ReferenceIdeal.HostRun.arg_kept _ Cert.ReferenceIdeal.main_arg27 (by decide))⟩)
    (Cert.ReferenceIdeal.HostRun.run (F := Ideal) m ρ)

/-- Both programs end, the kernel's result array at the specification of the interpolated arrays its region finds, the
    reference's at the same specification of its own — the same arrays, since the launch memories agree on the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun r h c => ⟨?_,
     (h c Cert.ReferenceIdeal.main_arg0).trans (Cert.ReferenceIdeal.HostRun.arg_kept _ Cert.ReferenceIdeal.main_arg0 (by decide)),
     (h c Cert.ReferenceIdeal.main_arg1).trans (Cert.ReferenceIdeal.HostRun.arg_kept _ Cert.ReferenceIdeal.main_arg1 (by decide)),
     (h c Cert.ReferenceIdeal.main_arg2).trans (Cert.ReferenceIdeal.HostRun.arg_kept _ Cert.ReferenceIdeal.main_arg2 (by decide)),
     (h c Cert.ReferenceIdeal.main_arg3).trans (Cert.ReferenceIdeal.HostRun.arg_kept _ Cert.ReferenceIdeal.main_arg3 (by decide)),
     (h c Cert.ReferenceIdeal.main_arg4).trans (Cert.ReferenceIdeal.HostRun.arg_kept _ Cert.ReferenceIdeal.main_arg4 (by decide)),
     (h c Cert.ReferenceIdeal.main_arg5).trans (Cert.ReferenceIdeal.HostRun.arg_kept _ Cert.ReferenceIdeal.main_arg5 (by decide)),
     (h c Cert.ReferenceIdeal.main_arg6).trans (Cert.ReferenceIdeal.HostRun.arg_kept _ Cert.ReferenceIdeal.main_arg6 (by decide)),
     (h c Cert.ReferenceIdeal.main_arg7).trans (Cert.ReferenceIdeal.HostRun.arg_kept _ Cert.ReferenceIdeal.main_arg7 (by decide)),
     (h c Cert.ReferenceIdeal.main_arg8).trans (Cert.ReferenceIdeal.HostRun.arg_kept _ Cert.ReferenceIdeal.main_arg8 (by decide)),
     (h c Cert.ReferenceIdeal.main_arg9).trans (Cert.ReferenceIdeal.HostRun.arg_kept _ Cert.ReferenceIdeal.main_arg9 (by decide)),
     (h c Cert.ReferenceIdeal.main_arg10).trans (Cert.ReferenceIdeal.HostRun.arg_kept _ Cert.ReferenceIdeal.main_arg10 (by decide)),
     (h c Cert.ReferenceIdeal.main_arg11).trans (Cert.ReferenceIdeal.HostRun.arg_kept _ Cert.ReferenceIdeal.main_arg11 (by decide)),
     (h c Cert.ReferenceIdeal.main_arg12).trans (Cert.ReferenceIdeal.HostRun.arg_kept _ Cert.ReferenceIdeal.main_arg12 (by decide)),
     (h c Cert.ReferenceIdeal.main_arg13).trans (Cert.ReferenceIdeal.HostRun.arg_kept _ Cert.ReferenceIdeal.main_arg13 (by decide)),
     (h c Cert.ReferenceIdeal.main_arg14).trans (Cert.ReferenceIdeal.HostRun.arg_kept _ Cert.ReferenceIdeal.main_arg14 (by decide)),
     (h c Cert.ReferenceIdeal.main_arg15).trans (Cert.ReferenceIdeal.HostRun.arg_kept _ Cert.ReferenceIdeal.main_arg15 (by decide)),
     (h c Cert.ReferenceIdeal.main_arg16).trans (Cert.ReferenceIdeal.HostRun.arg_kept _ Cert.ReferenceIdeal.main_arg16 (by decide)),
     (h c Cert.ReferenceIdeal.main_arg17).trans (Cert.ReferenceIdeal.HostRun.arg_kept _ Cert.ReferenceIdeal.main_arg17 (by decide)),
     (h c Cert.ReferenceIdeal.main_arg18).trans (Cert.ReferenceIdeal.HostRun.arg_kept _ Cert.ReferenceIdeal.main_arg18 (by decide)),
     (h c Cert.ReferenceIdeal.main_arg19).trans (Cert.ReferenceIdeal.HostRun.arg_kept _ Cert.ReferenceIdeal.main_arg19 (by decide)),
     (h c Cert.ReferenceIdeal.main_arg20).trans (Cert.ReferenceIdeal.HostRun.arg_kept _ Cert.ReferenceIdeal.main_arg20 (by decide)),
     (h c Cert.ReferenceIdeal.main_arg21).trans (Cert.ReferenceIdeal.HostRun.arg_kept _ Cert.ReferenceIdeal.main_arg21 (by decide)),
     (h c Cert.ReferenceIdeal.main_arg22).trans (Cert.ReferenceIdeal.HostRun.arg_kept _ Cert.ReferenceIdeal.main_arg22 (by decide)),
     (h c Cert.ReferenceIdeal.main_arg23).trans (Cert.ReferenceIdeal.HostRun.arg_kept _ Cert.ReferenceIdeal.main_arg23 (by decide)),
     (h c Cert.ReferenceIdeal.main_arg24).trans (Cert.ReferenceIdeal.HostRun.arg_kept _ Cert.ReferenceIdeal.main_arg24 (by decide)),
     (h c Cert.ReferenceIdeal.main_arg25).trans (Cert.ReferenceIdeal.HostRun.arg_kept _ Cert.ReferenceIdeal.main_arg25 (by decide)),
     (h c Cert.ReferenceIdeal.main_arg26).trans (Cert.ReferenceIdeal.HostRun.arg_kept _ Cert.ReferenceIdeal.main_arg26 (by decide)),
     (h c Cert.ReferenceIdeal.main_arg27).trans (Cert.ReferenceIdeal.HostRun.arg_kept _ Cert.ReferenceIdeal.main_arg27 (by decide))⟩)
    (Cert.ReferenceIdeal.HostRun.run (F := Ideal) m' ρ')
  refine (h c Cert.ReferenceIdeal.main_v3132).trans ?_
  obtain ⟨g0, g1, g2, g3, g4, g5, g6, g7, g8, g9, g10, g11, g12, g13, g14, g15, g16, g17, g18, g19, g20, g21, g22, g23, g24, g25, g26, g27⟩ := hagree c
  have e := Cert.Bridge.reference_value (V₁ := launchContents m c) (V₂ := launchContents m' c)
    ⟨g0.symm, g1.symm, g2.symm, g3.symm, g4.symm, g5.symm, g6.symm, g7.symm, g8.symm, g9.symm, g10.symm, g11.symm, g12.symm, g13.symm, g14.symm, g15.symm, g16.symm, g17.symm, g18.symm, g19.symm, g20.symm, g21.symm, g22.symm, g23.symm, g24.symm, g25.symm, g26.symm, g27.symm⟩
  exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
